-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v613)) (v1 : (c : Dev Cert.KernelIdeal.nD) → Buf (Elt Ideal) ((c.tc : Thread Cert.KernelIdeal.nD Cert.KernelIdeal.τ).loc Cert.KernelIdeal.main_v614)) (v2 : (c : Dev Cert.KernelIdeal.nD) → Buf (Elt Ideal) ((c.tc : Thread Cert.KernelIdeal.nD Cert.KernelIdeal.τ).loc Cert.KernelIdeal.main_v615)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v613) = v0 c
          ∧ r.2.mem ((c.tc : Thread Cert.KernelIdeal.nD Cert.KernelIdeal.τ).loc Cert.KernelIdeal.main_v614) = v1 c
          ∧ r.2.mem ((c.tc : Thread Cert.KernelIdeal.nD Cert.KernelIdeal.τ).loc Cert.KernelIdeal.main_v615) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v704) = v0 c
          ∧ r.2.mem ((c.tc : Thread Cert.ReferenceIdeal.nD Cert.ReferenceIdeal.τ).loc Cert.ReferenceIdeal.main_v705) = v1 c
          ∧ r.2.mem ((c.tc : Thread Cert.ReferenceIdeal.nD Cert.ReferenceIdeal.τ).loc Cert.ReferenceIdeal.main_v706) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300000x5 : Shape := ⟨3, ![4, 300000, 5]⟩
abbrev S_ : Shape := ⟨0, ![]⟩

class Facts : Prop where
  bcast_S_S4x300000x5 : S_.BroadcastsInDim S4x300000x5 (![] : Fin 0 → Fin S4x300000x5.rank)
  reducesTo_S4x300000x5_S_d0_1_2 : S4x300000x5.ReducesTo [0, 1, 2] S_
  h_S_ : 0 < S_.numel

variable [Facts]

def fn {F : FTy → Type} [FloatOps F] (main_arg0 : FVec F S4x300000x5 .f32) : IVec S_ 1 :=
  let main_v0 : FVec F S4x300000x5 .f32 := Host.absf main_arg0
  let main_cst : FVec F S_ .f32 := constant S_ .f32 0x7F800000#32
  let main_v1 : FVec F S4x300000x5 .f32 := broadcastInDim S4x300000x5 ![] bcast_S_S4x300000x5 main_cst
  let main_v2 : IVec S4x300000x5 1 := cmpf .olt main_v0 main_v1
  let main_c : IVec S_ 1 := constantI S_ 1 1#1
  let main_v3 : IVec S_ 1 := (fun x v => Host.reduce IntOp.andi x v reducesTo_S4x300000x5_S_d0_1_2 h_S_) main_v2 main_c
  main_v3
-- ==== Kernel.lean ====
abbrev S4x300000x5 : Shape := ⟨3, ![4, 300000, 5]⟩
abbrev S1x300000x5 : Shape := ⟨3, ![1, 300000, 5]⟩
abbrev S300000x5 : Shape := ⟨2, ![300000, 5]⟩
abbrev S_ : Shape := ⟨0, ![]⟩
abbrev S1 : Shape := ⟨1, ![1]⟩
abbrev S2 : Shape := ⟨1, ![2]⟩
abbrev S4x300000x3 : Shape := ⟨3, ![4, 300000, 3]⟩
abbrev S4x3x300000 : Shape := ⟨3, ![4, 3, 300000]⟩
abbrev S4x1x300000 : Shape := ⟨3, ![4, 1, 300000]⟩
abbrev S1x3x300000 : Shape := ⟨3, ![1, 3, 300000]⟩
abbrev S1x1x300000 : Shape := ⟨3, ![1, 1, 300000]⟩
abbrev S3x300000 : Shape := ⟨2, ![3, 300000]⟩
abbrev S1x300000 : Shape := ⟨2, ![1, 300000]⟩
abbrev S4x300000 : Shape := ⟨2, ![4, 300000]⟩
abbrev S300000 : Shape := ⟨1, ![300000]⟩
abbrev S262145 : Shape := ⟨1, ![262145]⟩
abbrev S300000x1 : Shape := ⟨2, ![300000, 1]⟩
abbrev S299999 : Shape := ⟨1, ![299999]⟩
abbrev S30001x20x5 : Shape := ⟨3, ![30001, 20, 5]⟩
abbrev S300000x2 : Shape := ⟨2, ![300000, 2]⟩
abbrev S30000x20x5 : Shape := ⟨3, ![30000, 20, 5]⟩
abbrev S30001 : Shape := ⟨1, ![30001]⟩
abbrev S30000 : Shape := ⟨1, ![30000]⟩
abbrev S30000x1 : Shape := ⟨2, ![30000, 1]⟩
abbrev S30000x3 : Shape := ⟨2, ![30000, 3]⟩
abbrev S30000x4 : Shape := ⟨2, ![30000, 4]⟩
abbrev S120000x20x5 : Shape := ⟨3, ![120000, 20, 5]⟩
abbrev S120000 : Shape := ⟨1, ![120000]⟩
abbrev S120000x4 : Shape := ⟨2, ![120000, 4]⟩

abbrev nBuf : Space → Nat
  | .hbm => 1273
  | .vmem => 4
  | .smem => 0
  | _ => 0

abbrev hbmTy0_0 (i : Nat) : BufTy := match i % 128 with
  | 0 => ⟨S4x300000x5, .f32⟩
  | 1 => ⟨S1x300000x5, .f32⟩
  | 2 => ⟨S300000x5, .f32⟩
  | 3 => ⟨S_, .i32⟩
  | 4 => ⟨S1, .i32⟩
  | 5 => ⟨S_, .i32⟩
  | 6 => ⟨S1, .i32⟩
  | 7 => ⟨S2, .i32⟩
  | 8 => ⟨S_, .f32⟩
  | 9 => ⟨S300000x5, .f32⟩
  | 10 => ⟨S_, .i32⟩
  | 11 => ⟨S1, .i32⟩
  | 12 => ⟨S_, .i32⟩
  | 13 => ⟨S1, .i32⟩
  | 14 => ⟨S2, .i32⟩
  | 15 => ⟨S_, .f32⟩
  | 16 => ⟨S300000x5, .f32⟩
  | 17 => ⟨S_, .i32⟩
  | 18 => ⟨S1, .i32⟩
  | 19 => ⟨S_, .i32⟩
  | 20 => ⟨S1, .i32⟩
  | 21 => ⟨S2, .i32⟩
  | 22 => ⟨S_, .f32⟩
  | 23 => ⟨S300000x5, .f32⟩
  | 24 => ⟨S1x300000x5, .f32⟩
  | 25 => ⟨S300000x5, .f32⟩
  | 26 => ⟨S_, .i32⟩
  | 27 => ⟨S1, .i32⟩
  | 28 => ⟨S_, .i32⟩
  | 29 => ⟨S1, .i32⟩
  | 30 => ⟨S2, .i32⟩
  | 31 => ⟨S_, .f32⟩
  | 32 => ⟨S300000x5, .f32⟩
  | 33 => ⟨S_, .i32⟩
  | 34 => ⟨S1, .i32⟩
  | 35 => ⟨S_, .i32⟩
  | 36 => ⟨S1, .i32⟩
  | 37 => ⟨S2, .i32⟩
  | 38 => ⟨S_, .f32⟩
  | 39 => ⟨S300000x5, .f32⟩
  | 40 => ⟨S_, .i32⟩
  | 41 => ⟨S1, .i32⟩
  | 42 => ⟨S_, .i32⟩
  | 43 => ⟨S1, .i32⟩
  | 44 => ⟨S2, .i32⟩
  | 45 => ⟨S_, .f32⟩
  | 46 => ⟨S300000x5, .f32⟩
  | 47 => ⟨S1x300000x5, .f32⟩
  | 48 => ⟨S300000x5, .f32⟩
  | 49 => ⟨S_, .i32⟩
  | 50 => ⟨S1, .i32⟩
  | 51 => ⟨S_, .i32⟩
  | 52 => ⟨S1, .i32⟩
  | 53 => ⟨S2, .i32⟩
  | 54 => ⟨S_, .f32⟩
  | 55 => ⟨S300000x5, .f32⟩
  | 56 => ⟨S_, .i32⟩
  | 57 => ⟨S1, .i32⟩
  | 58 => ⟨S_, .i32⟩
  | 59 => ⟨S1, .i32⟩
  | 60 => ⟨S2, .i32⟩
  | 61 => ⟨S_, .f32⟩
  | 62 => ⟨S300000x5, .f32⟩
  | 63 => ⟨S_, .i32⟩
  | 64 => ⟨S1, .i32⟩
  | 65 => ⟨S_, .i32⟩
  | 66 => ⟨S1, .i32⟩
  | 67 => ⟨S2, .i32⟩
  | 68 => ⟨S_, .f32⟩
  | 69 => ⟨S300000x5, .f32⟩
  | 70 => ⟨S1x300000x5, .f32⟩
  | 71 => ⟨S300000x5, .f32⟩
  | 72 => ⟨S_, .i32⟩
  | 73 => ⟨S1, .i32⟩
  | 74 => ⟨S_, .i32⟩
  | 75 => ⟨S1, .i32⟩
  | 76 => ⟨S2, .i32⟩
  | 77 => ⟨S_, .f32⟩
  | 78 => ⟨S300000x5, .f32⟩
  | 79 => ⟨S_, .i32⟩
  | 80 => ⟨S1, .i32⟩
  | 81 => ⟨S_, .i32⟩
  | 82 => ⟨S1, .i32⟩
  | 83 => ⟨S2, .i32⟩
  | 84 => ⟨S_, .f32⟩
  | 85 => ⟨S300000x5, .f32⟩
  | 86 => ⟨S_, .i32⟩
  | 87 => ⟨S1, .i32⟩
  | 88 => ⟨S_, .i32⟩
  | 89 => ⟨S1, .i32⟩
  | 90 => ⟨S2, .i32⟩
  | 91 => ⟨S_, .f32⟩
  | 92 => ⟨S300000x5, .f32⟩
  | 93 => ⟨S1x300000x5, .f32⟩
  | 94 => ⟨S1x300000x5, .f32⟩
  | 95 => ⟨S1x300000x5, .f32⟩
  | 96 => ⟨S1x300000x5, .f32⟩
  | 97 => ⟨S4x300000x5, .f32⟩
  | 98 => ⟨S4x300000x3, .f32⟩
  | 99 => ⟨S4x3x300000, .f32⟩
  | 100 => ⟨S4x1x300000, .i32⟩
  | 101 => ⟨S4x300000, .i32⟩
  | 102 => ⟨S1x300000, .i32⟩
  | 103 => ⟨S300000, .i32⟩
  | 104 => ⟨S_, .i32⟩
  | 105 => ⟨S300000, .i32⟩
  | 106 => ⟨S300000, .i1⟩
  | 107 => ⟨S300000, .i32⟩
  | 108 => ⟨S_, .i32⟩
  | 109 => ⟨S262145, .i32⟩
  | 110 => ⟨S_, .i32⟩
  | 111 => ⟨S300000, .i32⟩
  | 112 => ⟨S300000, .i1⟩
  | 113 => ⟨S_, .i32⟩
  | 114 => ⟨S300000, .i32⟩
  | 115 => ⟨S300000, .i32⟩
  | 116 => ⟨S300000, .i32⟩
  | 117 => ⟨S300000x1, .i32⟩
  | 118 => ⟨S262145, .i32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S300000, .i32⟩
  | _ => ⟨S4x300000x5, .f32⟩

abbrev hbmTy0_1 (i : Nat) : BufTy := match i % 128 with
  | 0 => ⟨S300000, .i1⟩
  | 1 => ⟨S300000, .i1⟩
  | 2 => ⟨S300000, .i32⟩
  | 3 => ⟨S_, .i32⟩
  | 4 => ⟨S_, .i32⟩
  | 5 => ⟨S300000, .i32⟩
  | 6 => ⟨S_, .i32⟩
  | 7 => ⟨S300000, .i32⟩
  | 8 => ⟨S300000, .i32⟩
  | 9 => ⟨S_, .i32⟩
  | 10 => ⟨S262145, .i32⟩
  | 11 => ⟨S_, .i32⟩
  | 12 => ⟨S_, .i32⟩
  | 13 => ⟨S300000, .i32⟩
  | 14 => ⟨S300000, .i32⟩
  | 15 => ⟨S_, .i32⟩
  | 16 => ⟨S300000, .i32⟩
  | 17 => ⟨S300000, .i32⟩
  | 18 => ⟨S_, .i32⟩
  | 19 => ⟨S_, .i32⟩
  | 20 => ⟨S300000, .i32⟩
  | 21 => ⟨S300000, .i32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S262145, .i32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .i32⟩
  | 40 => ⟨S_, .i32⟩
  | 41 => ⟨S_, .i32⟩
  | 42 => ⟨S300000, .i32⟩
  | 43 => ⟨S300000, .i32⟩
  | 44 => ⟨S300000, .i32⟩
  | 45 => ⟨S300000, .i32⟩
  | 46 => ⟨S300000, .i32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000, .i32⟩
  | 56 => ⟨S_, .i1⟩
  | 57 => ⟨S1, .i1⟩
  | 58 => ⟨S299999, .i32⟩
  | 59 => ⟨S299999, .i32⟩
  | 60 => ⟨S299999, .i1⟩
  | 61 => ⟨S300000, .i1⟩
  | 62 => ⟨S_, .i32⟩
  | 63 => ⟨S_, .i32⟩
  | 64 => ⟨S300000, .i32⟩
  | 65 => ⟨S300000, .i32⟩
  | 66 => ⟨S_, .i32⟩
  | 67 => ⟨S_, .i32⟩
  | 68 => ⟨S300000, .i32⟩
  | 69 => ⟨S_, .i32⟩
  | 70 => ⟨S300000, .i32⟩
  | 71 => ⟨S300000, .i32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S300000, .i32⟩
  | 81 => ⟨S_, .i32⟩
  | 82 => ⟨S300000, .i32⟩
  | 83 => ⟨S300000, .i1⟩
  | 84 => ⟨S300000, .i1⟩
  | 85 => ⟨S_, .i32⟩
  | 86 => ⟨S300000, .i32⟩
  | 87 => ⟨S300000, .i1⟩
  | 88 => ⟨S300000, .i1⟩
  | 89 => ⟨S_, .i32⟩
  | 90 => ⟨S_, .i32⟩
  | 91 => ⟨S300000, .i32⟩
  | 92 => ⟨S300000, .i32⟩
  | 93 => ⟨S_, .i32⟩
  | 94 => ⟨S_, .i32⟩
  | 95 => ⟨S300000, .i32⟩
  | 96 => ⟨S300000, .i32⟩
  | 97 => ⟨S_, .f32⟩
  | 98 => ⟨S30001x20x5, .f32⟩
  | 99 => ⟨S300000x1, .i1⟩
  | 100 => ⟨S_, .f32⟩
  | 101 => ⟨S_, .f32⟩
  | 102 => ⟨S300000x5, .i1⟩
  | 103 => ⟨S300000x5, .f32⟩
  | 104 => ⟨S300000x5, .f32⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S_, .i32⟩
  | 113 => ⟨S300000, .i32⟩
  | 114 => ⟨S300000, .i1⟩
  | 115 => ⟨S_, .i32⟩
  | 116 => ⟨S300000, .i32⟩
  | 117 => ⟨S300000, .i32⟩
  | 118 => ⟨S300000, .i32⟩
  | 119 => ⟨S300000x1, .i32⟩
  | 120 => ⟨S300000x1, .i32⟩
  | 121 => ⟨S300000x2, .i32⟩
  | 122 => ⟨S30001x20x5, .f32⟩
  | 123 => ⟨S30000x20x5, .f32⟩
  | 124 => ⟨S300000, .i32⟩
  | 125 => ⟨S_, .i32⟩
  | 126 => ⟨S30001, .i32⟩
  | 127 => ⟨S300000x1, .i32⟩
  | _ => ⟨S4x300000x5, .f32⟩

abbrev hbmTy0_2 (i : Nat) : BufTy := match i % 128 with
  | 0 => ⟨S30001, .i32⟩
  | 1 => ⟨S30000, .i32⟩
  | 2 => ⟨S_, .i32⟩
  | 3 => ⟨S30001, .i32⟩
  | 4 => ⟨S_, .i32⟩
  | 5 => ⟨S300000, .i32⟩
  | 6 => ⟨S300000, .i1⟩
  | 7 => ⟨S300000, .i1⟩
  | 8 => ⟨S_, .i32⟩
  | 9 => ⟨S_, .i32⟩
  | 10 => ⟨S300000, .i32⟩
  | 11 => ⟨S300000, .i32⟩
  | 12 => ⟨S_, .i32⟩
  | 13 => ⟨S300000, .i32⟩
  | 14 => ⟨S300000, .i1⟩
  | 15 => ⟨S300000, .i1⟩
  | 16 => ⟨S_, .i32⟩
  | 17 => ⟨S_, .i32⟩
  | 18 => ⟨S300000, .i32⟩
  | 19 => ⟨S300000, .i32⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S30001, .i32⟩
  | 29 => ⟨S30000, .i32⟩
  | 30 => ⟨S_, .i32⟩
  | 31 => ⟨S30000, .i32⟩
  | 32 => ⟨S30000, .i1⟩
  | 33 => ⟨S_, .i32⟩
  | 34 => ⟨S_, .i32⟩
  | 35 => ⟨S30000, .i32⟩
  | 36 => ⟨S30000, .i32⟩
  | 37 => ⟨S30000, .i32⟩
  | 38 => ⟨S_, .i32⟩
  | 39 => ⟨S30000, .i32⟩
  | 40 => ⟨S30000, .i1⟩
  | 41 => ⟨S30000, .i32⟩
  | 42 => ⟨S30000, .i32⟩
  | 43 => ⟨S_, .i32⟩
  | 44 => ⟨S30000, .i32⟩
  | 45 => ⟨S30000, .i1⟩
  | 46 => ⟨S30000, .i1⟩
  | 47 => ⟨S_, .i32⟩
  | 48 => ⟨S30000, .i32⟩
  | 49 => ⟨S30000, .i32⟩
  | 50 => ⟨S30000, .i32⟩
  | 51 => ⟨S_, .i32⟩
  | 52 => ⟨S_, .i32⟩
  | 53 => ⟨S30000, .i32⟩
  | 54 => ⟨S30000, .i32⟩
  | 55 => ⟨S_, .i32⟩
  | 56 => ⟨S30000, .i32⟩
  | 57 => ⟨S30000, .i1⟩
  | 58 => ⟨S_, .i32⟩
  | 59 => ⟨S_, .i32⟩
  | 60 => ⟨S30000, .i32⟩
  | 61 => ⟨S30000, .i32⟩
  | 62 => ⟨S30000, .i32⟩
  | 63 => ⟨S_, .i32⟩
  | 64 => ⟨S30000, .i32⟩
  | 65 => ⟨S30000, .i1⟩
  | 66 => ⟨S30000, .i32⟩
  | 67 => ⟨S30000, .i32⟩
  | 68 => ⟨S_, .i32⟩
  | 69 => ⟨S30000, .i32⟩
  | 70 => ⟨S30000, .i1⟩
  | 71 => ⟨S30000, .i1⟩
  | 72 => ⟨S_, .i32⟩
  | 73 => ⟨S30000, .i32⟩
  | 74 => ⟨S30000, .i32⟩
  | 75 => ⟨S30000, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S30000, .i32⟩
  | 83 => ⟨S30000, .i32⟩
  | 84 => ⟨S_, .i32⟩
  | 85 => ⟨S30000, .i32⟩
  | 86 => ⟨S30000, .i1⟩
  | 87 => ⟨S_, .i32⟩
  | 88 => ⟨S30000, .i32⟩
  | 89 => ⟨S30000, .i1⟩
  | 90 => ⟨S_, .i32⟩
  | 91 => ⟨S_, .i1⟩
  | 92 => ⟨S30000, .i1⟩
  | 93 => ⟨S30000, .i1⟩
  | 94 => ⟨S30000, .i1⟩
  | 95 => ⟨S30000, .i32⟩
  | 96 => ⟨S30000, .i32⟩
  | 97 => ⟨S30000, .i32⟩
  | 98 => ⟨S_, .i32⟩
  | 99 => ⟨S_, .i32⟩
  | 100 => ⟨S30000, .i32⟩
  | 101 => ⟨S30000, .i32⟩
  | 102 => ⟨S_, .i32⟩
  | 103 => ⟨S30000, .i32⟩
  | 104 => ⟨S30000, .i1⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S30000, .i32⟩
  | 112 => ⟨S30000, .i32⟩
  | 113 => ⟨S_, .i32⟩
  | 114 => ⟨S30000, .i32⟩
  | 115 => ⟨S30000, .i1⟩
  | 116 => ⟨S_, .i32⟩
  | 117 => ⟨S30000, .i32⟩
  | 118 => ⟨S30000, .i1⟩
  | 119 => ⟨S_, .i32⟩
  | 120 => ⟨S_, .i1⟩
  | 121 => ⟨S30000, .i1⟩
  | 122 => ⟨S30000, .i1⟩
  | 123 => ⟨S30000, .i1⟩
  | 124 => ⟨S30000, .i32⟩
  | 125 => ⟨S30000, .i32⟩
  | 126 => ⟨S30000, .i32⟩
  | 127 => ⟨S_, .i32⟩
  | _ => ⟨S4x300000x5, .f32⟩

abbrev hbmTy0_3 (i : Nat) : BufTy := match i % 128 with
  | 0 => ⟨S_, .i32⟩
  | 1 => ⟨S30000, .i32⟩
  | 2 => ⟨S30000, .i32⟩
  | 3 => ⟨S30000x1, .i32⟩
  | 4 => ⟨S30000x1, .i32⟩
  | 5 => ⟨S30000x1, .i32⟩
  | 6 => ⟨S30000x3, .i32⟩
  | 7 => ⟨S_, .i32⟩
  | 8 => ⟨S30000x1, .i32⟩
  | 9 => ⟨S30000x4, .i32⟩
  | 10 => ⟨S1x300000, .i32⟩
  | 11 => ⟨S300000, .i32⟩
  | 12 => ⟨S_, .i32⟩
  | 13 => ⟨S300000, .i32⟩
  | 14 => ⟨S300000, .i1⟩
  | 15 => ⟨S300000, .i32⟩
  | 16 => ⟨S_, .i32⟩
  | 17 => ⟨S262145, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S262145, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000, .i32⟩
  | 36 => ⟨S300000, .i1⟩
  | 37 => ⟨S300000, .i1⟩
  | 38 => ⟨S300000, .i32⟩
  | 39 => ⟨S_, .i32⟩
  | 40 => ⟨S_, .i32⟩
  | 41 => ⟨S300000, .i32⟩
  | 42 => ⟨S_, .i32⟩
  | 43 => ⟨S300000, .i32⟩
  | 44 => ⟨S300000, .i32⟩
  | 45 => ⟨S_, .i32⟩
  | 46 => ⟨S262145, .i32⟩
  | 47 => ⟨S_, .i32⟩
  | 48 => ⟨S_, .i32⟩
  | 49 => ⟨S300000, .i32⟩
  | 50 => ⟨S300000, .i32⟩
  | 51 => ⟨S_, .i32⟩
  | 52 => ⟨S300000, .i32⟩
  | 53 => ⟨S300000, .i32⟩
  | 54 => ⟨S_, .i32⟩
  | 55 => ⟨S_, .i32⟩
  | 56 => ⟨S300000, .i32⟩
  | 57 => ⟨S300000, .i32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S262145, .i32⟩
  | 67 => ⟨S_, .i32⟩
  | 68 => ⟨S300000, .i32⟩
  | 69 => ⟨S300000, .i1⟩
  | 70 => ⟨S_, .i32⟩
  | 71 => ⟨S300000, .i32⟩
  | 72 => ⟨S300000, .i32⟩
  | 73 => ⟨S300000, .i32⟩
  | 74 => ⟨S300000x1, .i32⟩
  | 75 => ⟨S300000, .i32⟩
  | 76 => ⟨S_, .i32⟩
  | 77 => ⟨S_, .i32⟩
  | 78 => ⟨S300000, .i32⟩
  | 79 => ⟨S300000, .i32⟩
  | 80 => ⟨S300000, .i32⟩
  | 81 => ⟨S300000, .i32⟩
  | 82 => ⟨S300000, .i32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000, .i32⟩
  | 92 => ⟨S_, .i1⟩
  | 93 => ⟨S1, .i1⟩
  | 94 => ⟨S299999, .i32⟩
  | 95 => ⟨S299999, .i32⟩
  | 96 => ⟨S299999, .i1⟩
  | 97 => ⟨S300000, .i1⟩
  | 98 => ⟨S_, .i32⟩
  | 99 => ⟨S_, .i32⟩
  | 100 => ⟨S300000, .i32⟩
  | 101 => ⟨S300000, .i32⟩
  | 102 => ⟨S_, .i32⟩
  | 103 => ⟨S_, .i32⟩
  | 104 => ⟨S300000, .i32⟩
  | 105 => ⟨S_, .i32⟩
  | 106 => ⟨S300000, .i32⟩
  | 107 => ⟨S300000, .i32⟩
  | 108 => ⟨S_, .i32⟩
  | 109 => ⟨S300000, .i32⟩
  | 110 => ⟨S300000, .i1⟩
  | 111 => ⟨S_, .i32⟩
  | 112 => ⟨S300000, .i32⟩
  | 113 => ⟨S300000, .i32⟩
  | 114 => ⟨S300000, .i32⟩
  | 115 => ⟨S300000x1, .i32⟩
  | 116 => ⟨S300000, .i32⟩
  | 117 => ⟨S_, .i32⟩
  | 118 => ⟨S300000, .i32⟩
  | 119 => ⟨S300000, .i1⟩
  | 120 => ⟨S300000, .i1⟩
  | 121 => ⟨S_, .i32⟩
  | 122 => ⟨S300000, .i32⟩
  | 123 => ⟨S300000, .i1⟩
  | 124 => ⟨S300000, .i1⟩
  | 125 => ⟨S_, .i32⟩
  | 126 => ⟨S_, .i32⟩
  | 127 => ⟨S300000, .i32⟩
  | _ => ⟨S4x300000x5, .f32⟩

abbrev hbmTy0_4 (i : Nat) : BufTy := match i % 128 with
  | 0 => ⟨S300000, .i32⟩
  | 1 => ⟨S_, .i32⟩
  | 2 => ⟨S_, .i32⟩
  | 3 => ⟨S300000, .i32⟩
  | 4 => ⟨S300000, .i32⟩
  | 5 => ⟨S_, .f32⟩
  | 6 => ⟨S30001x20x5, .f32⟩
  | 7 => ⟨S300000x1, .i1⟩
  | 8 => ⟨S_, .f32⟩
  | 9 => ⟨S_, .f32⟩
  | 10 => ⟨S300000x5, .i1⟩
  | 11 => ⟨S300000x5, .f32⟩
  | 12 => ⟨S300000x5, .f32⟩
  | 13 => ⟨S_, .i32⟩
  | 14 => ⟨S300000, .i32⟩
  | 15 => ⟨S300000, .i1⟩
  | 16 => ⟨S_, .i32⟩
  | 17 => ⟨S300000, .i32⟩
  | 18 => ⟨S300000, .i32⟩
  | 19 => ⟨S300000, .i32⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x1, .i32⟩
  | 29 => ⟨S300000x2, .i32⟩
  | 30 => ⟨S30001x20x5, .f32⟩
  | 31 => ⟨S30000x20x5, .f32⟩
  | 32 => ⟨S300000, .i32⟩
  | 33 => ⟨S_, .i32⟩
  | 34 => ⟨S30001, .i32⟩
  | 35 => ⟨S300000x1, .i32⟩
  | 36 => ⟨S30001, .i32⟩
  | 37 => ⟨S30000, .i32⟩
  | 38 => ⟨S_, .i32⟩
  | 39 => ⟨S30001, .i32⟩
  | 40 => ⟨S_, .i32⟩
  | 41 => ⟨S300000, .i32⟩
  | 42 => ⟨S300000, .i1⟩
  | 43 => ⟨S300000, .i1⟩
  | 44 => ⟨S_, .i32⟩
  | 45 => ⟨S_, .i32⟩
  | 46 => ⟨S300000, .i32⟩
  | 47 => ⟨S300000, .i32⟩
  | 48 => ⟨S_, .i32⟩
  | 49 => ⟨S300000, .i32⟩
  | 50 => ⟨S300000, .i1⟩
  | 51 => ⟨S300000, .i1⟩
  | 52 => ⟨S_, .i32⟩
  | 53 => ⟨S_, .i32⟩
  | 54 => ⟨S300000, .i32⟩
  | 55 => ⟨S300000, .i32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S30001, .i32⟩
  | 65 => ⟨S30000, .i32⟩
  | 66 => ⟨S_, .i32⟩
  | 67 => ⟨S30000, .i32⟩
  | 68 => ⟨S30000, .i1⟩
  | 69 => ⟨S_, .i32⟩
  | 70 => ⟨S_, .i32⟩
  | 71 => ⟨S30000, .i32⟩
  | 72 => ⟨S30000, .i32⟩
  | 73 => ⟨S30000, .i32⟩
  | 74 => ⟨S_, .i32⟩
  | 75 => ⟨S30000, .i32⟩
  | 76 => ⟨S30000, .i1⟩
  | 77 => ⟨S30000, .i32⟩
  | 78 => ⟨S30000, .i32⟩
  | 79 => ⟨S_, .i32⟩
  | 80 => ⟨S30000, .i32⟩
  | 81 => ⟨S30000, .i1⟩
  | 82 => ⟨S30000, .i1⟩
  | 83 => ⟨S_, .i32⟩
  | 84 => ⟨S30000, .i32⟩
  | 85 => ⟨S30000, .i32⟩
  | 86 => ⟨S30000, .i32⟩
  | 87 => ⟨S_, .i32⟩
  | 88 => ⟨S_, .i32⟩
  | 89 => ⟨S30000, .i32⟩
  | 90 => ⟨S30000, .i32⟩
  | 91 => ⟨S_, .i32⟩
  | 92 => ⟨S30000, .i32⟩
  | 93 => ⟨S30000, .i1⟩
  | 94 => ⟨S_, .i32⟩
  | 95 => ⟨S_, .i32⟩
  | 96 => ⟨S30000, .i32⟩
  | 97 => ⟨S30000, .i32⟩
  | 98 => ⟨S30000, .i32⟩
  | 99 => ⟨S_, .i32⟩
  | 100 => ⟨S30000, .i32⟩
  | 101 => ⟨S30000, .i1⟩
  | 102 => ⟨S30000, .i32⟩
  | 103 => ⟨S30000, .i32⟩
  | 104 => ⟨S_, .i32⟩
  | 105 => ⟨S30000, .i32⟩
  | 106 => ⟨S30000, .i1⟩
  | 107 => ⟨S30000, .i1⟩
  | 108 => ⟨S_, .i32⟩
  | 109 => ⟨S30000, .i32⟩
  | 110 => ⟨S30000, .i32⟩
  | 111 => ⟨S30000, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S30000, .i32⟩
  | 119 => ⟨S30000, .i32⟩
  | 120 => ⟨S_, .i32⟩
  | 121 => ⟨S30000, .i32⟩
  | 122 => ⟨S30000, .i1⟩
  | 123 => ⟨S_, .i32⟩
  | 124 => ⟨S30000, .i32⟩
  | 125 => ⟨S30000, .i1⟩
  | 126 => ⟨S_, .i32⟩
  | 127 => ⟨S_, .i1⟩
  | _ => ⟨S4x300000x5, .f32⟩

abbrev hbmTy0_5 (i : Nat) : BufTy := match i % 128 with
  | 0 => ⟨S30000, .i1⟩
  | 1 => ⟨S30000, .i1⟩
  | 2 => ⟨S30000, .i1⟩
  | 3 => ⟨S30000, .i32⟩
  | 4 => ⟨S30000, .i32⟩
  | 5 => ⟨S30000, .i32⟩
  | 6 => ⟨S_, .i32⟩
  | 7 => ⟨S_, .i32⟩
  | 8 => ⟨S30000, .i32⟩
  | 9 => ⟨S30000, .i32⟩
  | 10 => ⟨S_, .i32⟩
  | 11 => ⟨S30000, .i32⟩
  | 12 => ⟨S30000, .i1⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S30000, .i32⟩
  | 20 => ⟨S30000, .i32⟩
  | 21 => ⟨S_, .i32⟩
  | 22 => ⟨S30000, .i32⟩
  | 23 => ⟨S30000, .i1⟩
  | 24 => ⟨S_, .i32⟩
  | 25 => ⟨S30000, .i32⟩
  | 26 => ⟨S30000, .i1⟩
  | 27 => ⟨S_, .i32⟩
  | 28 => ⟨S_, .i1⟩
  | 29 => ⟨S30000, .i1⟩
  | 30 => ⟨S30000, .i1⟩
  | 31 => ⟨S30000, .i1⟩
  | 32 => ⟨S30000, .i32⟩
  | 33 => ⟨S30000, .i32⟩
  | 34 => ⟨S30000, .i32⟩
  | 35 => ⟨S_, .i32⟩
  | 36 => ⟨S_, .i32⟩
  | 37 => ⟨S30000, .i32⟩
  | 38 => ⟨S30000, .i32⟩
  | 39 => ⟨S30000x1, .i32⟩
  | 40 => ⟨S30000x1, .i32⟩
  | 41 => ⟨S30000x1, .i32⟩
  | 42 => ⟨S30000x3, .i32⟩
  | 43 => ⟨S_, .i32⟩
  | 44 => ⟨S30000x1, .i32⟩
  | 45 => ⟨S30000x4, .i32⟩
  | 46 => ⟨S1x300000, .i32⟩
  | 47 => ⟨S300000, .i32⟩
  | 48 => ⟨S_, .i32⟩
  | 49 => ⟨S300000, .i32⟩
  | 50 => ⟨S300000, .i1⟩
  | 51 => ⟨S300000, .i32⟩
  | 52 => ⟨S_, .i32⟩
  | 53 => ⟨S262145, .i32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S262145, .i32⟩
  | 63 => ⟨S_, .i32⟩
  | 64 => ⟨S300000, .i32⟩
  | 65 => ⟨S300000, .i1⟩
  | 66 => ⟨S_, .i32⟩
  | 67 => ⟨S300000, .i32⟩
  | 68 => ⟨S300000, .i32⟩
  | 69 => ⟨S300000, .i32⟩
  | 70 => ⟨S300000x1, .i32⟩
  | 71 => ⟨S300000, .i32⟩
  | 72 => ⟨S300000, .i1⟩
  | 73 => ⟨S300000, .i1⟩
  | 74 => ⟨S300000, .i32⟩
  | 75 => ⟨S_, .i32⟩
  | 76 => ⟨S_, .i32⟩
  | 77 => ⟨S300000, .i32⟩
  | 78 => ⟨S_, .i32⟩
  | 79 => ⟨S300000, .i32⟩
  | 80 => ⟨S300000, .i32⟩
  | 81 => ⟨S_, .i32⟩
  | 82 => ⟨S262145, .i32⟩
  | 83 => ⟨S_, .i32⟩
  | 84 => ⟨S_, .i32⟩
  | 85 => ⟨S300000, .i32⟩
  | 86 => ⟨S300000, .i32⟩
  | 87 => ⟨S_, .i32⟩
  | 88 => ⟨S300000, .i32⟩
  | 89 => ⟨S300000, .i32⟩
  | 90 => ⟨S_, .i32⟩
  | 91 => ⟨S_, .i32⟩
  | 92 => ⟨S300000, .i32⟩
  | 93 => ⟨S300000, .i32⟩
  | 94 => ⟨S_, .i32⟩
  | 95 => ⟨S300000, .i32⟩
  | 96 => ⟨S300000, .i1⟩
  | 97 => ⟨S_, .i32⟩
  | 98 => ⟨S300000, .i32⟩
  | 99 => ⟨S300000, .i32⟩
  | 100 => ⟨S300000, .i32⟩
  | 101 => ⟨S300000x1, .i32⟩
  | 102 => ⟨S262145, .i32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000, .i32⟩
  | 112 => ⟨S_, .i32⟩
  | 113 => ⟨S_, .i32⟩
  | 114 => ⟨S300000, .i32⟩
  | 115 => ⟨S300000, .i32⟩
  | 116 => ⟨S300000, .i32⟩
  | 117 => ⟨S300000, .i32⟩
  | 118 => ⟨S300000, .i32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S300000, .i32⟩
  | _ => ⟨S4x300000x5, .f32⟩

abbrev hbmTy0_6 (i : Nat) : BufTy := match i % 128 with
  | 0 => ⟨S_, .i1⟩
  | 1 => ⟨S1, .i1⟩
  | 2 => ⟨S299999, .i32⟩
  | 3 => ⟨S299999, .i32⟩
  | 4 => ⟨S299999, .i1⟩
  | 5 => ⟨S300000, .i1⟩
  | 6 => ⟨S_, .i32⟩
  | 7 => ⟨S_, .i32⟩
  | 8 => ⟨S300000, .i32⟩
  | 9 => ⟨S300000, .i32⟩
  | 10 => ⟨S_, .i32⟩
  | 11 => ⟨S_, .i32⟩
  | 12 => ⟨S300000, .i32⟩
  | 13 => ⟨S_, .i32⟩
  | 14 => ⟨S300000, .i32⟩
  | 15 => ⟨S300000, .i32⟩
  | 16 => ⟨S_, .i32⟩
  | 17 => ⟨S300000, .i32⟩
  | 18 => ⟨S300000, .i1⟩
  | 19 => ⟨S_, .i32⟩
  | 20 => ⟨S300000, .i32⟩
  | 21 => ⟨S300000, .i32⟩
  | 22 => ⟨S300000, .i32⟩
  | 23 => ⟨S300000x1, .i32⟩
  | 24 => ⟨S300000, .i32⟩
  | 25 => ⟨S_, .i32⟩
  | 26 => ⟨S300000, .i32⟩
  | 27 => ⟨S300000, .i1⟩
  | 28 => ⟨S300000, .i1⟩
  | 29 => ⟨S_, .i32⟩
  | 30 => ⟨S300000, .i32⟩
  | 31 => ⟨S300000, .i1⟩
  | 32 => ⟨S300000, .i1⟩
  | 33 => ⟨S_, .i32⟩
  | 34 => ⟨S_, .i32⟩
  | 35 => ⟨S300000, .i32⟩
  | 36 => ⟨S300000, .i32⟩
  | 37 => ⟨S_, .i32⟩
  | 38 => ⟨S_, .i32⟩
  | 39 => ⟨S300000, .i32⟩
  | 40 => ⟨S300000, .i32⟩
  | 41 => ⟨S_, .f32⟩
  | 42 => ⟨S30001x20x5, .f32⟩
  | 43 => ⟨S300000x1, .i1⟩
  | 44 => ⟨S_, .f32⟩
  | 45 => ⟨S_, .f32⟩
  | 46 => ⟨S300000x5, .i1⟩
  | 47 => ⟨S300000x5, .f32⟩
  | 48 => ⟨S300000x5, .f32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x1, .i32⟩
  | 65 => ⟨S300000x2, .i32⟩
  | 66 => ⟨S30001x20x5, .f32⟩
  | 67 => ⟨S30000x20x5, .f32⟩
  | 68 => ⟨S300000, .i32⟩
  | 69 => ⟨S_, .i32⟩
  | 70 => ⟨S30001, .i32⟩
  | 71 => ⟨S300000x1, .i32⟩
  | 72 => ⟨S30001, .i32⟩
  | 73 => ⟨S30000, .i32⟩
  | 74 => ⟨S_, .i32⟩
  | 75 => ⟨S30001, .i32⟩
  | 76 => ⟨S_, .i32⟩
  | 77 => ⟨S300000, .i32⟩
  | 78 => ⟨S300000, .i1⟩
  | 79 => ⟨S300000, .i1⟩
  | 80 => ⟨S_, .i32⟩
  | 81 => ⟨S_, .i32⟩
  | 82 => ⟨S300000, .i32⟩
  | 83 => ⟨S300000, .i32⟩
  | 84 => ⟨S_, .i32⟩
  | 85 => ⟨S300000, .i32⟩
  | 86 => ⟨S300000, .i1⟩
  | 87 => ⟨S300000, .i1⟩
  | 88 => ⟨S_, .i32⟩
  | 89 => ⟨S_, .i32⟩
  | 90 => ⟨S300000, .i32⟩
  | 91 => ⟨S300000, .i32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S30001, .i32⟩
  | 101 => ⟨S30000, .i32⟩
  | 102 => ⟨S_, .i32⟩
  | 103 => ⟨S30000, .i32⟩
  | 104 => ⟨S30000, .i1⟩
  | 105 => ⟨S_, .i32⟩
  | 106 => ⟨S_, .i32⟩
  | 107 => ⟨S30000, .i32⟩
  | 108 => ⟨S30000, .i32⟩
  | 109 => ⟨S30000, .i32⟩
  | 110 => ⟨S_, .i32⟩
  | 111 => ⟨S30000, .i32⟩
  | 112 => ⟨S30000, .i1⟩
  | 113 => ⟨S30000, .i32⟩
  | 114 => ⟨S30000, .i32⟩
  | 115 => ⟨S_, .i32⟩
  | 116 => ⟨S30000, .i32⟩
  | 117 => ⟨S30000, .i1⟩
  | 118 => ⟨S30000, .i1⟩
  | 119 => ⟨S_, .i32⟩
  | 120 => ⟨S30000, .i32⟩
  | 121 => ⟨S30000, .i32⟩
  | 122 => ⟨S30000, .i32⟩
  | 123 => ⟨S_, .i32⟩
  | 124 => ⟨S_, .i32⟩
  | 125 => ⟨S30000, .i32⟩
  | 126 => ⟨S30000, .i32⟩
  | 127 => ⟨S_, .i32⟩
  | _ => ⟨S4x300000x5, .f32⟩

abbrev hbmTy0_7 (i : Nat) : BufTy := match i % 128 with
  | 0 => ⟨S30000, .i32⟩
  | 1 => ⟨S30000, .i1⟩
  | 2 => ⟨S_, .i32⟩
  | 3 => ⟨S_, .i32⟩
  | 4 => ⟨S30000, .i32⟩
  | 5 => ⟨S30000, .i32⟩
  | 6 => ⟨S30000, .i32⟩
  | 7 => ⟨S_, .i32⟩
  | 8 => ⟨S30000, .i32⟩
  | 9 => ⟨S30000, .i1⟩
  | 10 => ⟨S30000, .i32⟩
  | 11 => ⟨S30000, .i32⟩
  | 12 => ⟨S_, .i32⟩
  | 13 => ⟨S30000, .i32⟩
  | 14 => ⟨S30000, .i1⟩
  | 15 => ⟨S30000, .i1⟩
  | 16 => ⟨S_, .i32⟩
  | 17 => ⟨S30000, .i32⟩
  | 18 => ⟨S30000, .i32⟩
  | 19 => ⟨S30000, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S30000, .i32⟩
  | 27 => ⟨S30000, .i32⟩
  | 28 => ⟨S_, .i32⟩
  | 29 => ⟨S30000, .i32⟩
  | 30 => ⟨S30000, .i1⟩
  | 31 => ⟨S_, .i32⟩
  | 32 => ⟨S30000, .i32⟩
  | 33 => ⟨S30000, .i1⟩
  | 34 => ⟨S_, .i32⟩
  | 35 => ⟨S_, .i1⟩
  | 36 => ⟨S30000, .i1⟩
  | 37 => ⟨S30000, .i1⟩
  | 38 => ⟨S30000, .i1⟩
  | 39 => ⟨S30000, .i32⟩
  | 40 => ⟨S30000, .i32⟩
  | 41 => ⟨S30000, .i32⟩
  | 42 => ⟨S_, .i32⟩
  | 43 => ⟨S_, .i32⟩
  | 44 => ⟨S30000, .i32⟩
  | 45 => ⟨S30000, .i32⟩
  | 46 => ⟨S_, .i32⟩
  | 47 => ⟨S30000, .i32⟩
  | 48 => ⟨S30000, .i1⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S30000, .i32⟩
  | 56 => ⟨S30000, .i32⟩
  | 57 => ⟨S_, .i32⟩
  | 58 => ⟨S30000, .i32⟩
  | 59 => ⟨S30000, .i1⟩
  | 60 => ⟨S_, .i32⟩
  | 61 => ⟨S30000, .i32⟩
  | 62 => ⟨S30000, .i1⟩
  | 63 => ⟨S_, .i32⟩
  | 64 => ⟨S_, .i1⟩
  | 65 => ⟨S30000, .i1⟩
  | 66 => ⟨S30000, .i1⟩
  | 67 => ⟨S30000, .i1⟩
  | 68 => ⟨S30000, .i32⟩
  | 69 => ⟨S30000, .i32⟩
  | 70 => ⟨S30000, .i32⟩
  | 71 => ⟨S_, .i32⟩
  | 72 => ⟨S_, .i32⟩
  | 73 => ⟨S30000, .i32⟩
  | 74 => ⟨S30000, .i32⟩
  | 75 => ⟨S30000x1, .i32⟩
  | 76 => ⟨S30000x1, .i32⟩
  | 77 => ⟨S30000x1, .i32⟩
  | 78 => ⟨S30000x3, .i32⟩
  | 79 => ⟨S_, .i32⟩
  | 80 => ⟨S30000x1, .i32⟩
  | 81 => ⟨S30000x4, .i32⟩
  | 82 => ⟨S1x300000, .i32⟩
  | 83 => ⟨S300000, .i32⟩
  | 84 => ⟨S_, .i32⟩
  | 85 => ⟨S300000, .i32⟩
  | 86 => ⟨S300000, .i1⟩
  | 87 => ⟨S300000, .i32⟩
  | 88 => ⟨S_, .i32⟩
  | 89 => ⟨S262145, .i32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S262145, .i32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000, .i32⟩
  | 108 => ⟨S300000, .i1⟩
  | 109 => ⟨S300000, .i1⟩
  | 110 => ⟨S300000, .i32⟩
  | 111 => ⟨S_, .i32⟩
  | 112 => ⟨S_, .i32⟩
  | 113 => ⟨S300000, .i32⟩
  | 114 => ⟨S_, .i32⟩
  | 115 => ⟨S300000, .i32⟩
  | 116 => ⟨S300000, .i32⟩
  | 117 => ⟨S_, .i32⟩
  | 118 => ⟨S262145, .i32⟩
  | 119 => ⟨S_, .i32⟩
  | 120 => ⟨S_, .i32⟩
  | 121 => ⟨S300000, .i32⟩
  | 122 => ⟨S300000, .i32⟩
  | 123 => ⟨S_, .i32⟩
  | 124 => ⟨S300000, .i32⟩
  | 125 => ⟨S300000, .i32⟩
  | 126 => ⟨S_, .i32⟩
  | 127 => ⟨S_, .i32⟩
  | _ => ⟨S4x300000x5, .f32⟩

abbrev hbmTy0_8 (i : Nat) : BufTy := match i % 128 with
  | 0 => ⟨S300000, .i32⟩
  | 1 => ⟨S300000, .i32⟩
  | 2 => ⟨S_, .i32⟩
  | 3 => ⟨S300000, .i32⟩
  | 4 => ⟨S300000, .i1⟩
  | 5 => ⟨S_, .i32⟩
  | 6 => ⟨S300000, .i32⟩
  | 7 => ⟨S300000, .i32⟩
  | 8 => ⟨S300000, .i32⟩
  | 9 => ⟨S300000x1, .i32⟩
  | 10 => ⟨S262145, .i32⟩
  | 11 => ⟨S_, .i32⟩
  | 12 => ⟨S300000, .i32⟩
  | 13 => ⟨S300000, .i1⟩
  | 14 => ⟨S_, .i32⟩
  | 15 => ⟨S300000, .i32⟩
  | 16 => ⟨S300000, .i32⟩
  | 17 => ⟨S300000, .i32⟩
  | 18 => ⟨S300000x1, .i32⟩
  | 19 => ⟨S300000, .i32⟩
  | 20 => ⟨S_, .i32⟩
  | 21 => ⟨S_, .i32⟩
  | 22 => ⟨S300000, .i32⟩
  | 23 => ⟨S300000, .i32⟩
  | 24 => ⟨S300000, .i32⟩
  | 25 => ⟨S300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000, .i32⟩
  | 36 => ⟨S_, .i1⟩
  | 37 => ⟨S1, .i1⟩
  | 38 => ⟨S299999, .i32⟩
  | 39 => ⟨S299999, .i32⟩
  | 40 => ⟨S299999, .i1⟩
  | 41 => ⟨S300000, .i1⟩
  | 42 => ⟨S_, .i32⟩
  | 43 => ⟨S_, .i32⟩
  | 44 => ⟨S300000, .i32⟩
  | 45 => ⟨S300000, .i32⟩
  | 46 => ⟨S_, .i32⟩
  | 47 => ⟨S_, .i32⟩
  | 48 => ⟨S300000, .i32⟩
  | 49 => ⟨S_, .i32⟩
  | 50 => ⟨S300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000, .i32⟩
  | 61 => ⟨S_, .i32⟩
  | 62 => ⟨S300000, .i32⟩
  | 63 => ⟨S300000, .i1⟩
  | 64 => ⟨S300000, .i1⟩
  | 65 => ⟨S_, .i32⟩
  | 66 => ⟨S300000, .i32⟩
  | 67 => ⟨S300000, .i1⟩
  | 68 => ⟨S300000, .i1⟩
  | 69 => ⟨S_, .i32⟩
  | 70 => ⟨S_, .i32⟩
  | 71 => ⟨S300000, .i32⟩
  | 72 => ⟨S300000, .i32⟩
  | 73 => ⟨S_, .i32⟩
  | 74 => ⟨S_, .i32⟩
  | 75 => ⟨S300000, .i32⟩
  | 76 => ⟨S300000, .i32⟩
  | 77 => ⟨S_, .f32⟩
  | 78 => ⟨S30001x20x5, .f32⟩
  | 79 => ⟨S300000x1, .i1⟩
  | 80 => ⟨S_, .f32⟩
  | 81 => ⟨S_, .f32⟩
  | 82 => ⟨S300000x5, .i1⟩
  | 83 => ⟨S300000x5, .f32⟩
  | 84 => ⟨S300000x5, .f32⟩
  | 85 => ⟨S_, .i32⟩
  | 86 => ⟨S300000, .i32⟩
  | 87 => ⟨S300000, .i1⟩
  | 88 => ⟨S_, .i32⟩
  | 89 => ⟨S300000, .i32⟩
  | 90 => ⟨S300000, .i32⟩
  | 91 => ⟨S300000, .i32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000x1, .i32⟩
  | 101 => ⟨S300000x2, .i32⟩
  | 102 => ⟨S30001x20x5, .f32⟩
  | 103 => ⟨S30000x20x5, .f32⟩
  | 104 => ⟨S300000, .i32⟩
  | 105 => ⟨S_, .i32⟩
  | 106 => ⟨S30001, .i32⟩
  | 107 => ⟨S300000x1, .i32⟩
  | 108 => ⟨S30001, .i32⟩
  | 109 => ⟨S30000, .i32⟩
  | 110 => ⟨S_, .i32⟩
  | 111 => ⟨S30001, .i32⟩
  | 112 => ⟨S_, .i32⟩
  | 113 => ⟨S300000, .i32⟩
  | 114 => ⟨S300000, .i1⟩
  | 115 => ⟨S300000, .i1⟩
  | 116 => ⟨S_, .i32⟩
  | 117 => ⟨S_, .i32⟩
  | 118 => ⟨S300000, .i32⟩
  | 119 => ⟨S300000, .i32⟩
  | 120 => ⟨S_, .i32⟩
  | 121 => ⟨S300000, .i32⟩
  | 122 => ⟨S300000, .i1⟩
  | 123 => ⟨S300000, .i1⟩
  | 124 => ⟨S_, .i32⟩
  | 125 => ⟨S_, .i32⟩
  | 126 => ⟨S300000, .i32⟩
  | 127 => ⟨S300000, .i32⟩
  | _ => ⟨S4x300000x5, .f32⟩

abbrev hbmTy0_9 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S30001, .i32⟩
  | 9 => ⟨S30000, .i32⟩
  | 10 => ⟨S_, .i32⟩
  | 11 => ⟨S30000, .i32⟩
  | 12 => ⟨S30000, .i1⟩
  | 13 => ⟨S_, .i32⟩
  | 14 => ⟨S_, .i32⟩
  | 15 => ⟨S30000, .i32⟩
  | 16 => ⟨S30000, .i32⟩
  | 17 => ⟨S30000, .i32⟩
  | 18 => ⟨S_, .i32⟩
  | 19 => ⟨S30000, .i32⟩
  | 20 => ⟨S30000, .i1⟩
  | 21 => ⟨S30000, .i32⟩
  | 22 => ⟨S30000, .i32⟩
  | 23 => ⟨S_, .i32⟩
  | 24 => ⟨S30000, .i32⟩
  | 25 => ⟨S30000, .i1⟩
  | 26 => ⟨S30000, .i1⟩
  | 27 => ⟨S_, .i32⟩
  | 28 => ⟨S30000, .i32⟩
  | 29 => ⟨S30000, .i32⟩
  | 30 => ⟨S30000, .i32⟩
  | 31 => ⟨S_, .i32⟩
  | 32 => ⟨S_, .i32⟩
  | 33 => ⟨S30000, .i32⟩
  | 34 => ⟨S30000, .i32⟩
  | 35 => ⟨S_, .i32⟩
  | 36 => ⟨S30000, .i32⟩
  | 37 => ⟨S30000, .i1⟩
  | 38 => ⟨S_, .i32⟩
  | 39 => ⟨S_, .i32⟩
  | 40 => ⟨S30000, .i32⟩
  | 41 => ⟨S30000, .i32⟩
  | 42 => ⟨S30000, .i32⟩
  | 43 => ⟨S_, .i32⟩
  | 44 => ⟨S30000, .i32⟩
  | 45 => ⟨S30000, .i1⟩
  | 46 => ⟨S30000, .i32⟩
  | 47 => ⟨S30000, .i32⟩
  | 48 => ⟨S_, .i32⟩
  | 49 => ⟨S30000, .i32⟩
  | 50 => ⟨S30000, .i1⟩
  | 51 => ⟨S30000, .i1⟩
  | 52 => ⟨S_, .i32⟩
  | 53 => ⟨S30000, .i32⟩
  | 54 => ⟨S30000, .i32⟩
  | 55 => ⟨S30000, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S30000, .i32⟩
  | 63 => ⟨S30000, .i32⟩
  | 64 => ⟨S_, .i32⟩
  | 65 => ⟨S30000, .i32⟩
  | 66 => ⟨S30000, .i1⟩
  | 67 => ⟨S_, .i32⟩
  | 68 => ⟨S30000, .i32⟩
  | 69 => ⟨S30000, .i1⟩
  | 70 => ⟨S_, .i32⟩
  | 71 => ⟨S_, .i1⟩
  | 72 => ⟨S30000, .i1⟩
  | 73 => ⟨S30000, .i1⟩
  | 74 => ⟨S30000, .i1⟩
  | 75 => ⟨S30000, .i32⟩
  | 76 => ⟨S30000, .i32⟩
  | 77 => ⟨S30000, .i32⟩
  | 78 => ⟨S_, .i32⟩
  | 79 => ⟨S_, .i32⟩
  | 80 => ⟨S30000, .i32⟩
  | 81 => ⟨S30000, .i32⟩
  | 82 => ⟨S_, .i32⟩
  | 83 => ⟨S30000, .i32⟩
  | 84 => ⟨S30000, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S30000, .i32⟩
  | 92 => ⟨S30000, .i32⟩
  | 93 => ⟨S_, .i32⟩
  | 94 => ⟨S30000, .i32⟩
  | 95 => ⟨S30000, .i1⟩
  | 96 => ⟨S_, .i32⟩
  | 97 => ⟨S30000, .i32⟩
  | 98 => ⟨S30000, .i1⟩
  | 99 => ⟨S_, .i32⟩
  | 100 => ⟨S_, .i1⟩
  | 101 => ⟨S30000, .i1⟩
  | 102 => ⟨S30000, .i1⟩
  | 103 => ⟨S30000, .i1⟩
  | 104 => ⟨S30000, .i32⟩
  | 105 => ⟨S30000, .i32⟩
  | 106 => ⟨S30000, .i32⟩
  | 107 => ⟨S_, .i32⟩
  | 108 => ⟨S_, .i32⟩
  | 109 => ⟨S30000, .i32⟩
  | 110 => ⟨S30000, .i32⟩
  | 111 => ⟨S30000x1, .i32⟩
  | 112 => ⟨S30000x1, .i32⟩
  | 113 => ⟨S30000x1, .i32⟩
  | 114 => ⟨S30000x3, .i32⟩
  | 115 => ⟨S_, .i32⟩
  | 116 => ⟨S30000x1, .i32⟩
  | 117 => ⟨S30000x4, .i32⟩
  | 118 => ⟨S120000x20x5, .f32⟩
  | 119 => ⟨S120000, .i32⟩
  | 120 => ⟨S120000x4, .i32⟩
  | _ => ⟨S4x300000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x300000x5, .f32⟩

abbrev bufTy : (tb : Table) → Fin (tcTables nBuf tb) → BufTy
  | .hbm, ⟨i, _⟩ => hbmTy i
  | .local _ .vmem, ⟨0, _⟩ => ⟨S1x3x300000, .f32⟩
  | .local _ .vmem, ⟨1, _⟩ => ⟨S1x3x300000, .f32⟩
  | .local _ .vmem, ⟨2, _⟩ => ⟨S1x1x300000, .i32⟩
  | .local _ .vmem, ⟨3, _⟩ => ⟨S1x1x300000, .i32⟩
  | _, _ => ⟨S4x300000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_7 : Ref sig .tc := ⟨.hbm, 26, rfl⟩
abbrev main_v16 : Ref sig .tc := ⟨.hbm, 27, rfl⟩
abbrev main_c_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_c_10 : Ref sig .tc := ⟨.hbm, 33, rfl⟩
abbrev main_v20 : Ref sig .tc := ⟨.hbm, 34, rfl⟩
abbrev main_c_11 : Ref sig .tc := ⟨.hbm, 35, rfl⟩
abbrev main_v21 : Ref sig .tc := ⟨.hbm, 36, rfl⟩
abbrev main_v22 : Ref sig .tc := ⟨.hbm, 37, rfl⟩
abbrev main_cst_12 : Ref sig .tc := ⟨.hbm, 38, rfl⟩
abbrev main_v23 : Ref sig .tc := ⟨.hbm, 39, rfl⟩
abbrev main_c_13 : Ref sig .tc := ⟨.hbm, 40, rfl⟩
abbrev main_v24 : Ref sig .tc := ⟨.hbm, 41, rfl⟩
abbrev main_c_14 : Ref sig .tc := ⟨.hbm, 42, rfl⟩
abbrev main_v25 : Ref sig .tc := ⟨.hbm, 43, rfl⟩
abbrev main_v26 : Ref sig .tc := ⟨.hbm, 44, rfl⟩
abbrev main_cst_15 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_16 : Ref sig .tc := ⟨.hbm, 49, rfl⟩
abbrev main_v30 : Ref sig .tc := ⟨.hbm, 50, rfl⟩
abbrev main_c_17 : Ref sig .tc := ⟨.hbm, 51, rfl⟩
abbrev main_v31 : Ref sig .tc := ⟨.hbm, 52, rfl⟩
abbrev main_v32 : Ref sig .tc := ⟨.hbm, 53, rfl⟩
abbrev main_cst_18 : Ref sig .tc := ⟨.hbm, 54, rfl⟩
abbrev main_v33 : Ref sig .tc := ⟨.hbm, 55, rfl⟩
abbrev main_c_19 : Ref sig .tc := ⟨.hbm, 56, rfl⟩
abbrev main_v34 : Ref sig .tc := ⟨.hbm, 57, rfl⟩
abbrev main_c_20 : Ref sig .tc := ⟨.hbm, 58, rfl⟩
abbrev main_v35 : Ref sig .tc := ⟨.hbm, 59, rfl⟩
abbrev main_v36 : Ref sig .tc := ⟨.hbm, 60, rfl⟩
abbrev main_cst_21 : Ref sig .tc := ⟨.hbm, 61, rfl⟩
abbrev main_v37 : Ref sig .tc := ⟨.hbm, 62, rfl⟩
abbrev main_c_22 : Ref sig .tc := ⟨.hbm, 63, rfl⟩
abbrev main_v38 : Ref sig .tc := ⟨.hbm, 64, rfl⟩
abbrev main_c_23 : Ref sig .tc := ⟨.hbm, 65, rfl⟩
abbrev main_v39 : Ref sig .tc := ⟨.hbm, 66, rfl⟩
abbrev main_v40 : Ref sig .tc := ⟨.hbm, 67, rfl⟩
abbrev main_cst_24 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_25 : Ref sig .tc := ⟨.hbm, 72, rfl⟩
abbrev main_v44 : Ref sig .tc := ⟨.hbm, 73, rfl⟩
abbrev main_c_26 : Ref sig .tc := ⟨.hbm, 74, rfl⟩
abbrev main_v45 : Ref sig .tc := ⟨.hbm, 75, rfl⟩
abbrev main_v46 : Ref sig .tc := ⟨.hbm, 76, rfl⟩
abbrev main_cst_27 : Ref sig .tc := ⟨.hbm, 77, rfl⟩
abbrev main_v47 : Ref sig .tc := ⟨.hbm, 78, rfl⟩
abbrev main_c_28 : Ref sig .tc := ⟨.hbm, 79, rfl⟩
abbrev main_v48 : Ref sig .tc := ⟨.hbm, 80, rfl⟩
abbrev main_c_29 : Ref sig .tc := ⟨.hbm, 81, rfl⟩
abbrev main_v49 : Ref sig .tc := ⟨.hbm, 82, rfl⟩
abbrev main_v50 : Ref sig .tc := ⟨.hbm, 83, rfl⟩
abbrev main_cst_30 : Ref sig .tc := ⟨.hbm, 84, rfl⟩
abbrev main_v51 : Ref sig .tc := ⟨.hbm, 85, rfl⟩
abbrev main_c_31 : Ref sig .tc := ⟨.hbm, 86, rfl⟩
abbrev main_v52 : Ref sig .tc := ⟨.hbm, 87, rfl⟩
abbrev main_c_32 : Ref sig .tc := ⟨.hbm, 88, rfl⟩
abbrev main_v53 : Ref sig .tc := ⟨.hbm, 89, rfl⟩
abbrev main_v54 : Ref sig .tc := ⟨.hbm, 90, rfl⟩
abbrev main_cst_33 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_34 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_35 : Ref sig .tc := ⟨.hbm, 108, rfl⟩
abbrev main_v70 : Ref sig .tc := ⟨.hbm, 109, rfl⟩
abbrev main_c_36 : Ref sig .tc := ⟨.hbm, 110, rfl⟩
abbrev main_v71 : Ref sig .tc := ⟨.hbm, 111, rfl⟩
abbrev main_v72 : Ref sig .tc := ⟨.hbm, 112, rfl⟩
abbrev main_c_37 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_38 : Ref sig .tc := ⟨.hbm, 119, rfl⟩
abbrev main_v78 : Ref sig .tc := ⟨.hbm, 120, rfl⟩
abbrev main_v79 : Ref sig .tc := ⟨.hbm, 121, rfl⟩
abbrev main_c_39 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call0_call0_c : Ref sig .tc := ⟨.hbm, 131, rfl⟩
abbrev main_call0_call0_v0 : Ref sig .tc := ⟨.hbm, 132, rfl⟩
abbrev main_v88 : Ref sig .tc := ⟨.hbm, 133, rfl⟩
abbrev main_c_40 : Ref sig .tc := ⟨.hbm, 134, rfl⟩
abbrev main_v89 : Ref sig .tc := ⟨.hbm, 135, rfl⟩
abbrev main_v90 : Ref sig .tc := ⟨.hbm, 136, rfl⟩
abbrev main_c_41 : Ref sig .tc := ⟨.hbm, 137, rfl⟩
abbrev main_v91 : Ref sig .tc := ⟨.hbm, 138, rfl⟩
abbrev main_c_42 : Ref sig .tc := ⟨.hbm, 139, rfl⟩
abbrev main_call1_v0 : Ref sig .tc := ⟨.hbm, 140, rfl⟩
abbrev main_call1_v1 : Ref sig .tc := ⟨.hbm, 141, rfl⟩
abbrev main_v92 : Ref sig .tc := ⟨.hbm, 142, rfl⟩
abbrev main_c_43 : Ref sig .tc := ⟨.hbm, 143, rfl⟩
abbrev main_v93 : Ref sig .tc := ⟨.hbm, 144, rfl⟩
abbrev main_v94 : Ref sig .tc := ⟨.hbm, 145, rfl⟩
abbrev main_c_44 : Ref sig .tc := ⟨.hbm, 146, rfl⟩
abbrev main_call2_v0 : Ref sig .tc := ⟨.hbm, 147, rfl⟩
abbrev main_call2_v1 : Ref sig .tc := ⟨.hbm, 148, rfl⟩
abbrev main_v95 : Ref sig .tc := ⟨.hbm, 149, rfl⟩
abbrev main_c_45 : Ref sig .tc := ⟨.hbm, 150, rfl⟩
abbrev main_v96 : Ref sig .tc := ⟨.hbm, 151, rfl⟩
abbrev main_v97 : Ref sig .tc := ⟨.hbm, 152, rfl⟩
abbrev main_c_46 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_47 : Ref sig .tc := ⟨.hbm, 159, rfl⟩
abbrev main_v103 : Ref sig .tc := ⟨.hbm, 160, rfl⟩
abbrev main_v104 : Ref sig .tc := ⟨.hbm, 161, rfl⟩
abbrev main_c_48 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_49 : Ref sig .tc := ⟨.hbm, 168, rfl⟩
abbrev main_call3_v0 : Ref sig .tc := ⟨.hbm, 169, rfl⟩
abbrev main_call3_v1 : Ref sig .tc := ⟨.hbm, 170, rfl⟩
abbrev main_v110 : Ref sig .tc := ⟨.hbm, 171, rfl⟩
abbrev main_call4_v0 : Ref sig .tc := ⟨.hbm, 172, rfl⟩
abbrev main_call4_v1_0 : Ref sig .tc := ⟨.hbm, 173, rfl⟩
abbrev main_v111 : Ref sig .tc := ⟨.hbm, 174, rfl⟩
abbrev main_c_50 : Ref sig .tc := ⟨.hbm, 175, rfl⟩
abbrev main_v112 : Ref sig .tc := ⟨.hbm, 176, rfl⟩
abbrev main_v113 : Ref sig .tc := ⟨.hbm, 177, rfl⟩
abbrev main_c_51 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_52 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_c_53 : Ref sig .tc := ⟨.hbm, 190, rfl⟩
abbrev main_call5_v0 : Ref sig .tc := ⟨.hbm, 191, rfl⟩
abbrev main_call5_v1 : Ref sig .tc := ⟨.hbm, 192, rfl⟩
abbrev main_v124 : Ref sig .tc := ⟨.hbm, 193, rfl⟩
abbrev main_call6_c : Ref sig .tc := ⟨.hbm, 194, rfl⟩
abbrev main_call6_v0 : Ref sig .tc := ⟨.hbm, 195, rfl⟩
abbrev main_v125 : Ref sig .tc := ⟨.hbm, 196, rfl⟩
abbrev main_c_54 : Ref sig .tc := ⟨.hbm, 197, rfl⟩
abbrev main_v126 : Ref sig .tc := ⟨.hbm, 198, rfl⟩
abbrev main_v127 : Ref sig .tc := ⟨.hbm, 199, rfl⟩
abbrev main_c_55 : Ref sig .tc := ⟨.hbm, 200, rfl⟩
abbrev main_v128 : Ref sig .tc := ⟨.hbm, 201, rfl⟩
abbrev main_v129 : Ref sig .tc := ⟨.hbm, 202, rfl⟩
abbrev main_c_56 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_c_57 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_58 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_c_59 : Ref sig .tc := ⟨.hbm, 217, rfl⟩
abbrev main_call7_v0 : Ref sig .tc := ⟨.hbm, 218, rfl⟩
abbrev main_call7_v1 : Ref sig .tc := ⟨.hbm, 219, rfl⟩
abbrev main_v141 : Ref sig .tc := ⟨.hbm, 220, rfl⟩
abbrev main_c_60 : Ref sig .tc := ⟨.hbm, 221, rfl⟩
abbrev main_call8_v0 : Ref sig .tc := ⟨.hbm, 222, rfl⟩
abbrev main_call8_v1 : Ref sig .tc := ⟨.hbm, 223, rfl⟩
abbrev main_v142 : Ref sig .tc := ⟨.hbm, 224, rfl⟩
abbrev main_cst_61 : Ref sig .tc := ⟨.hbm, 225, rfl⟩
abbrev main_v143 : Ref sig .tc := ⟨.hbm, 226, rfl⟩
abbrev main_v144 : Ref sig .tc := ⟨.hbm, 227, rfl⟩
abbrev main_cst_62 : Ref sig .tc := ⟨.hbm, 228, rfl⟩
abbrev main_call9_v0 : Ref sig .tc := ⟨.hbm, 229, rfl⟩
abbrev main_call9_v1 : Ref sig .tc := ⟨.hbm, 230, rfl⟩
abbrev main_call9_v2 : Ref sig .tc := ⟨.hbm, 231, rfl⟩
abbrev main_v145 : Ref sig .tc := ⟨.hbm, 232, rfl⟩
abbrev main_c_63 : Ref sig .tc := ⟨.hbm, 233, rfl⟩
abbrev main_v146 : Ref sig .tc := ⟨.hbm, 234, rfl⟩
abbrev main_v147 : Ref sig .tc := ⟨.hbm, 235, rfl⟩
abbrev main_c_64 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_c_65 : Ref sig .tc := ⟨.hbm, 240, rfl⟩
abbrev main_v151 : Ref sig .tc := ⟨.hbm, 241, rfl⟩
abbrev main_v152 : Ref sig .tc := ⟨.hbm, 242, rfl⟩
abbrev main_c_66 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_c_67 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_c_68 : Ref sig .tc := ⟨.hbm, 258, rfl⟩
abbrev main_v166 : Ref sig .tc := ⟨.hbm, 259, rfl⟩
abbrev main_c_69 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_c_70 : Ref sig .tc := ⟨.hbm, 264, rfl⟩
abbrev main_call10_v0 : Ref sig .tc := ⟨.hbm, 265, rfl⟩
abbrev main_call10_v1 : Ref sig .tc := ⟨.hbm, 266, rfl⟩
abbrev main_v170 : Ref sig .tc := ⟨.hbm, 267, rfl⟩
abbrev main_c_71 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_c_72 : Ref sig .tc := ⟨.hbm, 272, rfl⟩
abbrev main_call11_v0 : Ref sig .tc := ⟨.hbm, 273, rfl⟩
abbrev main_call11_v1 : Ref sig .tc := ⟨.hbm, 274, rfl⟩
abbrev main_v174 : Ref sig .tc := ⟨.hbm, 275, rfl⟩
abbrev main_c_73 : Ref sig .tc := ⟨.hbm, 276, rfl⟩
abbrev main_v175 : Ref sig .tc := ⟨.hbm, 277, rfl⟩
abbrev main_v176 : Ref sig .tc := ⟨.hbm, 278, rfl⟩
abbrev main_c_74 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_c_75 : Ref sig .tc := ⟨.hbm, 286, rfl⟩
abbrev main_v183 : Ref sig .tc := ⟨.hbm, 287, rfl⟩
abbrev main_v184 : Ref sig .tc := ⟨.hbm, 288, rfl⟩
abbrev main_c_76 : Ref sig .tc := ⟨.hbm, 289, rfl⟩
abbrev main_call12_v0 : Ref sig .tc := ⟨.hbm, 290, rfl⟩
abbrev main_call12_v1 : Ref sig .tc := ⟨.hbm, 291, rfl⟩
abbrev main_call12_v2 : Ref sig .tc := ⟨.hbm, 292, rfl⟩
abbrev main_call12_v3 : Ref sig .tc := ⟨.hbm, 293, rfl⟩
abbrev main_call12_v4 : Ref sig .tc := ⟨.hbm, 294, rfl⟩
abbrev main_call12_v5 : Ref sig .tc := ⟨.hbm, 295, rfl⟩
abbrev main_call12_v6 : Ref sig .tc := ⟨.hbm, 296, rfl⟩
abbrev main_call12_v7 : Ref sig .tc := ⟨.hbm, 297, rfl⟩
abbrev main_call12_v8 : Ref sig .tc := ⟨.hbm, 298, rfl⟩
abbrev main_call12_c : Ref sig .tc := ⟨.hbm, 299, rfl⟩
abbrev main_call12_v9 : Ref sig .tc := ⟨.hbm, 300, rfl⟩
abbrev main_call12_v10 : Ref sig .tc := ⟨.hbm, 301, rfl⟩
abbrev main_call12_v11 : Ref sig .tc := ⟨.hbm, 302, rfl⟩
abbrev main_call12_c_0 : Ref sig .tc := ⟨.hbm, 303, rfl⟩
abbrev main_call12_v12 : Ref sig .tc := ⟨.hbm, 304, rfl⟩
abbrev main_call12_v13 : Ref sig .tc := ⟨.hbm, 305, rfl⟩
abbrev main_v185 : Ref sig .tc := ⟨.hbm, 306, rfl⟩
abbrev main_c_77 : Ref sig .tc := ⟨.hbm, 307, rfl⟩
abbrev main_call13_v0 : Ref sig .tc := ⟨.hbm, 308, rfl⟩
abbrev main_call13_v1 : Ref sig .tc := ⟨.hbm, 309, rfl⟩
abbrev main_v186 : Ref sig .tc := ⟨.hbm, 310, rfl⟩
abbrev main_c_78 : Ref sig .tc := ⟨.hbm, 311, rfl⟩
abbrev main_v187 : Ref sig .tc := ⟨.hbm, 312, rfl⟩
abbrev main_v188 : Ref sig .tc := ⟨.hbm, 313, rfl⟩
abbrev main_c_79 : Ref sig .tc := ⟨.hbm, 314, rfl⟩
abbrev main_call14_v0 : Ref sig .tc := ⟨.hbm, 315, rfl⟩
abbrev main_call14_v1 : Ref sig .tc := ⟨.hbm, 316, rfl⟩
abbrev main_call14_v2 : Ref sig .tc := ⟨.hbm, 317, rfl⟩
abbrev main_call14_v3 : Ref sig .tc := ⟨.hbm, 318, rfl⟩
abbrev main_call14_v4 : Ref sig .tc := ⟨.hbm, 319, rfl⟩
abbrev main_call14_v5 : Ref sig .tc := ⟨.hbm, 320, rfl⟩
abbrev main_call14_v6 : Ref sig .tc := ⟨.hbm, 321, rfl⟩
abbrev main_call14_v7 : Ref sig .tc := ⟨.hbm, 322, rfl⟩
abbrev main_call14_v8 : Ref sig .tc := ⟨.hbm, 323, rfl⟩
abbrev main_call14_c : Ref sig .tc := ⟨.hbm, 324, rfl⟩
abbrev main_call14_v9 : Ref sig .tc := ⟨.hbm, 325, rfl⟩
abbrev main_call14_v10 : Ref sig .tc := ⟨.hbm, 326, rfl⟩
abbrev main_call14_v11 : Ref sig .tc := ⟨.hbm, 327, rfl⟩
abbrev main_call14_c_0 : Ref sig .tc := ⟨.hbm, 328, rfl⟩
abbrev main_call14_v12 : Ref sig .tc := ⟨.hbm, 329, rfl⟩
abbrev main_call14_v13 : Ref sig .tc := ⟨.hbm, 330, rfl⟩
abbrev main_v189 : Ref sig .tc := ⟨.hbm, 331, rfl⟩
abbrev main_c_80 : Ref sig .tc := ⟨.hbm, 332, rfl⟩
abbrev main_call15_v0 : Ref sig .tc := ⟨.hbm, 333, rfl⟩
abbrev main_call15_c : Ref sig .tc := ⟨.hbm, 334, rfl⟩
abbrev main_call15_v1 : Ref sig .tc := ⟨.hbm, 335, rfl⟩
abbrev main_call15_c_0 : Ref sig .tc := ⟨.hbm, 336, rfl⟩
abbrev main_call15_v2 : Ref sig .tc := ⟨.hbm, 337, rfl⟩
abbrev main_call15_v3 : Ref sig .tc := ⟨.hbm, 338, rfl⟩
abbrev main_call15_v4 : Ref sig .tc := ⟨.hbm, 339, rfl⟩
abbrev main_call15_c_1 : Ref sig .tc := ⟨.hbm, 340, rfl⟩
abbrev main_call15_v5 : Ref sig .tc := ⟨.hbm, 341, rfl⟩
abbrev main_call15_v6 : Ref sig .tc := ⟨.hbm, 342, rfl⟩
abbrev main_call15_c_2 : Ref sig .tc := ⟨.hbm, 343, rfl⟩
abbrev main_call15_v7 : Ref sig .tc := ⟨.hbm, 344, rfl⟩
abbrev main_call15_v8 : Ref sig .tc := ⟨.hbm, 345, rfl⟩
abbrev main_call15_c_3 : Ref sig .tc := ⟨.hbm, 346, rfl⟩
abbrev main_call15_v9 : Ref sig .tc := ⟨.hbm, 347, rfl⟩
abbrev main_call15_v10 : Ref sig .tc := ⟨.hbm, 348, rfl⟩
abbrev main_call15_v11 : Ref sig .tc := ⟨.hbm, 349, rfl⟩
abbrev main_call15_v12 : Ref sig .tc := ⟨.hbm, 350, rfl⟩
abbrev main_call15_v13 : Ref sig .tc := ⟨.hbm, 351, rfl⟩
abbrev main_call15_v14 : Ref sig .tc := ⟨.hbm, 352, rfl⟩
abbrev main_v190 : Ref sig .tc := ⟨.hbm, 353, rfl⟩
abbrev main_c_81 : Ref sig .tc := ⟨.hbm, 354, rfl⟩
abbrev main_call16_v0 : Ref sig .tc := ⟨.hbm, 355, rfl⟩
abbrev main_call16_v1 : Ref sig .tc := ⟨.hbm, 356, rfl⟩
abbrev main_v191 : Ref sig .tc := ⟨.hbm, 357, rfl⟩
abbrev main_c_82 : Ref sig .tc := ⟨.hbm, 358, rfl⟩
abbrev main_v192 : Ref sig .tc := ⟨.hbm, 359, rfl⟩
abbrev main_v193 : Ref sig .tc := ⟨.hbm, 360, rfl⟩
abbrev main_c_83 : Ref sig .tc := ⟨.hbm, 361, rfl⟩
abbrev main_call17_v0 : Ref sig .tc := ⟨.hbm, 362, rfl⟩
abbrev main_call17_c : Ref sig .tc := ⟨.hbm, 363, rfl⟩
abbrev main_call17_v1 : Ref sig .tc := ⟨.hbm, 364, rfl⟩
abbrev main_call17_c_0 : Ref sig .tc := ⟨.hbm, 365, rfl⟩
abbrev main_call17_v2 : Ref sig .tc := ⟨.hbm, 366, rfl⟩
abbrev main_call17_v3 : Ref sig .tc := ⟨.hbm, 367, rfl⟩
abbrev main_call17_v4 : Ref sig .tc := ⟨.hbm, 368, rfl⟩
abbrev main_call17_c_1 : Ref sig .tc := ⟨.hbm, 369, rfl⟩
abbrev main_call17_v5 : Ref sig .tc := ⟨.hbm, 370, rfl⟩
abbrev main_call17_v6 : Ref sig .tc := ⟨.hbm, 371, rfl⟩
abbrev main_call17_c_2 : Ref sig .tc := ⟨.hbm, 372, rfl⟩
abbrev main_call17_v7 : Ref sig .tc := ⟨.hbm, 373, rfl⟩
abbrev main_call17_v8 : Ref sig .tc := ⟨.hbm, 374, rfl⟩
abbrev main_call17_c_3 : Ref sig .tc := ⟨.hbm, 375, rfl⟩
abbrev main_call17_v9 : Ref sig .tc := ⟨.hbm, 376, rfl⟩
abbrev main_call17_v10 : Ref sig .tc := ⟨.hbm, 377, rfl⟩
abbrev main_call17_v11 : Ref sig .tc := ⟨.hbm, 378, rfl⟩
abbrev main_call17_v12 : Ref sig .tc := ⟨.hbm, 379, rfl⟩
abbrev main_call17_v13 : Ref sig .tc := ⟨.hbm, 380, rfl⟩
abbrev main_call17_v14 : Ref sig .tc := ⟨.hbm, 381, rfl⟩
abbrev main_v194 : Ref sig .tc := ⟨.hbm, 382, rfl⟩
abbrev main_c_84 : Ref sig .tc := ⟨.hbm, 383, rfl⟩
abbrev main_call18_v0 : Ref sig .tc := ⟨.hbm, 384, rfl⟩
abbrev main_call18_v1 : Ref sig .tc := ⟨.hbm, 385, rfl⟩
abbrev main_v195 : Ref sig .tc := ⟨.hbm, 386, rfl⟩
abbrev main_v196 : Ref sig .tc := ⟨.hbm, 387, rfl⟩
abbrev main_v197 : Ref sig .tc := ⟨.hbm, 388, rfl⟩
abbrev main_v198 : Ref sig .tc := ⟨.hbm, 389, rfl⟩
abbrev main_v199 : Ref sig .tc := ⟨.hbm, 390, rfl⟩
abbrev main_c_85 : Ref sig .tc := ⟨.hbm, 391, rfl⟩
abbrev main_v200 : Ref sig .tc := ⟨.hbm, 392, rfl⟩
abbrev main_v201 : Ref sig .tc := ⟨.hbm, 393, rfl⟩
abbrev main_v202 : Ref sig .tc := ⟨.hbm, 394, rfl⟩
abbrev main_v203 : Ref sig .tc := ⟨.hbm, 395, rfl⟩
abbrev main_c_86 : Ref sig .tc := ⟨.hbm, 396, rfl⟩
abbrev main_v204 : Ref sig .tc := ⟨.hbm, 397, rfl⟩
abbrev main_v205 : Ref sig .tc := ⟨.hbm, 398, rfl⟩
abbrev main_v206 : Ref sig .tc := ⟨.hbm, 399, rfl⟩
abbrev main_c_87 : Ref sig .tc := ⟨.hbm, 400, rfl⟩
abbrev main_v207 : Ref sig .tc := ⟨.hbm, 401, rfl⟩
abbrev main_c_88 : Ref sig .tc := ⟨.hbm, 402, rfl⟩
abbrev main_v208 : Ref sig .tc := ⟨.hbm, 403, rfl⟩
abbrev main_v209 : Ref sig .tc := ⟨.hbm, 404, rfl⟩
abbrev main_c_89 : Ref sig .tc := ⟨.hbm, 405, rfl⟩
abbrev main_v210 : Ref sig .tc := ⟨.hbm, 406, rfl⟩
abbrev main_v211 : Ref sig .tc := ⟨.hbm, 407, rfl⟩
abbrev main_v212 : Ref sig .tc := ⟨.hbm, 408, rfl⟩
abbrev main_v213 : Ref sig .tc := ⟨.hbm, 409, rfl⟩
abbrev main_v214 : Ref sig .tc := ⟨.hbm, 410, rfl⟩
abbrev main_c_90 : Ref sig .tc := ⟨.hbm, 411, rfl⟩
abbrev main_v215 : Ref sig .tc := ⟨.hbm, 412, rfl⟩
abbrev main_v216 : Ref sig .tc := ⟨.hbm, 413, rfl⟩
abbrev main_c_91 : Ref sig .tc := ⟨.hbm, 414, rfl⟩
abbrev main_v217 : Ref sig .tc := ⟨.hbm, 415, rfl⟩
abbrev main_v218 : Ref sig .tc := ⟨.hbm, 416, rfl⟩
abbrev main_v219 : Ref sig .tc := ⟨.hbm, 417, rfl⟩
abbrev main_v220 : Ref sig .tc := ⟨.hbm, 418, rfl⟩
abbrev main_v221 : Ref sig .tc := ⟨.hbm, 419, rfl⟩
abbrev main_v222 : Ref sig .tc := ⟨.hbm, 420, rfl⟩
abbrev main_v223 : Ref sig .tc := ⟨.hbm, 421, rfl⟩
abbrev main_v224 : Ref sig .tc := ⟨.hbm, 422, rfl⟩
abbrev main_call19_call0_c : Ref sig .tc := ⟨.hbm, 423, rfl⟩
abbrev main_call19_call0_v0 : Ref sig .tc := ⟨.hbm, 424, rfl⟩
abbrev main_v225 : Ref sig .tc := ⟨.hbm, 425, rfl⟩
abbrev main_c_92 : Ref sig .tc := ⟨.hbm, 426, rfl⟩
abbrev main_v226 : Ref sig .tc := ⟨.hbm, 427, rfl⟩
abbrev main_v227 : Ref sig .tc := ⟨.hbm, 428, rfl⟩
abbrev main_c_93 : Ref sig .tc := ⟨.hbm, 429, rfl⟩
abbrev main_v228 : Ref sig .tc := ⟨.hbm, 430, rfl⟩
abbrev main_c_94 : Ref sig .tc := ⟨.hbm, 431, rfl⟩
abbrev main_call20_v0 : Ref sig .tc := ⟨.hbm, 432, rfl⟩
abbrev main_call20_v1 : Ref sig .tc := ⟨.hbm, 433, rfl⟩
abbrev main_v229 : Ref sig .tc := ⟨.hbm, 434, rfl⟩
abbrev main_c_95 : Ref sig .tc := ⟨.hbm, 435, rfl⟩
abbrev main_v230 : Ref sig .tc := ⟨.hbm, 436, rfl⟩
abbrev main_v231 : Ref sig .tc := ⟨.hbm, 437, rfl⟩
abbrev main_c_96 : Ref sig .tc := ⟨.hbm, 438, rfl⟩
abbrev main_call21_v0 : Ref sig .tc := ⟨.hbm, 439, rfl⟩
abbrev main_call21_v1 : Ref sig .tc := ⟨.hbm, 440, rfl⟩
abbrev main_v232 : Ref sig .tc := ⟨.hbm, 441, rfl⟩
abbrev main_c_97 : Ref sig .tc := ⟨.hbm, 442, rfl⟩
abbrev main_v233 : Ref sig .tc := ⟨.hbm, 443, rfl⟩
abbrev main_v234 : Ref sig .tc := ⟨.hbm, 444, rfl⟩
abbrev main_c_98 : Ref sig .tc := ⟨.hbm, 445, rfl⟩
abbrev main_v235 : Ref sig .tc := ⟨.hbm, 446, rfl⟩
abbrev main_v236 : Ref sig .tc := ⟨.hbm, 447, rfl⟩
abbrev main_v237 : Ref sig .tc := ⟨.hbm, 448, rfl⟩
abbrev main_v238 : Ref sig .tc := ⟨.hbm, 449, rfl⟩
abbrev main_v239 : Ref sig .tc := ⟨.hbm, 450, rfl⟩
abbrev main_c_99 : Ref sig .tc := ⟨.hbm, 451, rfl⟩
abbrev main_v240 : Ref sig .tc := ⟨.hbm, 452, rfl⟩
abbrev main_v241 : Ref sig .tc := ⟨.hbm, 453, rfl⟩
abbrev main_c_100 : Ref sig .tc := ⟨.hbm, 454, rfl⟩
abbrev main_v242 : Ref sig .tc := ⟨.hbm, 455, rfl⟩
abbrev main_v243 : Ref sig .tc := ⟨.hbm, 456, rfl⟩
abbrev main_v244 : Ref sig .tc := ⟨.hbm, 457, rfl⟩
abbrev main_v245 : Ref sig .tc := ⟨.hbm, 458, rfl⟩
abbrev main_v246 : Ref sig .tc := ⟨.hbm, 459, rfl⟩
abbrev main_c_101 : Ref sig .tc := ⟨.hbm, 460, rfl⟩
abbrev main_call22_v0 : Ref sig .tc := ⟨.hbm, 461, rfl⟩
abbrev main_call22_v1 : Ref sig .tc := ⟨.hbm, 462, rfl⟩
abbrev main_v247 : Ref sig .tc := ⟨.hbm, 463, rfl⟩
abbrev main_call23_v0 : Ref sig .tc := ⟨.hbm, 464, rfl⟩
abbrev main_call23_v1_0 : Ref sig .tc := ⟨.hbm, 465, rfl⟩
abbrev main_v248 : Ref sig .tc := ⟨.hbm, 466, rfl⟩
abbrev main_c_102 : Ref sig .tc := ⟨.hbm, 467, rfl⟩
abbrev main_v249 : Ref sig .tc := ⟨.hbm, 468, rfl⟩
abbrev main_v250 : Ref sig .tc := ⟨.hbm, 469, rfl⟩
abbrev main_c_103 : Ref sig .tc := ⟨.hbm, 470, rfl⟩
abbrev main_v251 : Ref sig .tc := ⟨.hbm, 471, rfl⟩
abbrev main_v252 : Ref sig .tc := ⟨.hbm, 472, rfl⟩
abbrev main_v253 : Ref sig .tc := ⟨.hbm, 473, rfl⟩
abbrev main_v254 : Ref sig .tc := ⟨.hbm, 474, rfl⟩
abbrev main_v255 : Ref sig .tc := ⟨.hbm, 475, rfl⟩
abbrev main_c_104 : Ref sig .tc := ⟨.hbm, 476, rfl⟩
abbrev main_v256 : Ref sig .tc := ⟨.hbm, 477, rfl⟩
abbrev main_v257 : Ref sig .tc := ⟨.hbm, 478, rfl⟩
abbrev main_v258 : Ref sig .tc := ⟨.hbm, 479, rfl⟩
abbrev main_v259 : Ref sig .tc := ⟨.hbm, 480, rfl⟩
abbrev main_v260 : Ref sig .tc := ⟨.hbm, 481, rfl⟩
abbrev main_c_105 : Ref sig .tc := ⟨.hbm, 482, rfl⟩
abbrev main_call24_v0 : Ref sig .tc := ⟨.hbm, 483, rfl⟩
abbrev main_call24_v1 : Ref sig .tc := ⟨.hbm, 484, rfl⟩
abbrev main_v261 : Ref sig .tc := ⟨.hbm, 485, rfl⟩
abbrev main_call25_c : Ref sig .tc := ⟨.hbm, 486, rfl⟩
abbrev main_call25_v0 : Ref sig .tc := ⟨.hbm, 487, rfl⟩
abbrev main_v262 : Ref sig .tc := ⟨.hbm, 488, rfl⟩
abbrev main_c_106 : Ref sig .tc := ⟨.hbm, 489, rfl⟩
abbrev main_v263 : Ref sig .tc := ⟨.hbm, 490, rfl⟩
abbrev main_v264 : Ref sig .tc := ⟨.hbm, 491, rfl⟩
abbrev main_c_107 : Ref sig .tc := ⟨.hbm, 492, rfl⟩
abbrev main_v265 : Ref sig .tc := ⟨.hbm, 493, rfl⟩
abbrev main_v266 : Ref sig .tc := ⟨.hbm, 494, rfl⟩
abbrev main_c_108 : Ref sig .tc := ⟨.hbm, 495, rfl⟩
abbrev main_v267 : Ref sig .tc := ⟨.hbm, 496, rfl⟩
abbrev main_v268 : Ref sig .tc := ⟨.hbm, 497, rfl⟩
abbrev main_v269 : Ref sig .tc := ⟨.hbm, 498, rfl⟩
abbrev main_v270 : Ref sig .tc := ⟨.hbm, 499, rfl⟩
abbrev main_v271 : Ref sig .tc := ⟨.hbm, 500, rfl⟩
abbrev main_c_109 : Ref sig .tc := ⟨.hbm, 501, rfl⟩
abbrev main_v272 : Ref sig .tc := ⟨.hbm, 502, rfl⟩
abbrev main_v273 : Ref sig .tc := ⟨.hbm, 503, rfl⟩
abbrev main_v274 : Ref sig .tc := ⟨.hbm, 504, rfl⟩
abbrev main_c_110 : Ref sig .tc := ⟨.hbm, 505, rfl⟩
abbrev main_v275 : Ref sig .tc := ⟨.hbm, 506, rfl⟩
abbrev main_v276 : Ref sig .tc := ⟨.hbm, 507, rfl⟩
abbrev main_v277 : Ref sig .tc := ⟨.hbm, 508, rfl⟩
abbrev main_c_111 : Ref sig .tc := ⟨.hbm, 509, rfl⟩
abbrev main_call26_v0 : Ref sig .tc := ⟨.hbm, 510, rfl⟩
abbrev main_call26_v1 : Ref sig .tc := ⟨.hbm, 511, rfl⟩
abbrev main_v278 : Ref sig .tc := ⟨.hbm, 512, rfl⟩
abbrev main_c_112 : Ref sig .tc := ⟨.hbm, 513, rfl⟩
abbrev main_call27_v0 : Ref sig .tc := ⟨.hbm, 514, rfl⟩
abbrev main_call27_v1 : Ref sig .tc := ⟨.hbm, 515, rfl⟩
abbrev main_v279 : Ref sig .tc := ⟨.hbm, 516, rfl⟩
abbrev main_cst_113 : Ref sig .tc := ⟨.hbm, 517, rfl⟩
abbrev main_v280 : Ref sig .tc := ⟨.hbm, 518, rfl⟩
abbrev main_v281 : Ref sig .tc := ⟨.hbm, 519, rfl⟩
abbrev main_cst_114 : Ref sig .tc := ⟨.hbm, 520, rfl⟩
abbrev main_call28_v0 : Ref sig .tc := ⟨.hbm, 521, rfl⟩
abbrev main_call28_v1 : Ref sig .tc := ⟨.hbm, 522, rfl⟩
abbrev main_call28_v2 : Ref sig .tc := ⟨.hbm, 523, rfl⟩
abbrev main_v282 : Ref sig .tc := ⟨.hbm, 524, rfl⟩
abbrev main_c_115 : Ref sig .tc := ⟨.hbm, 525, rfl⟩
abbrev main_v283 : Ref sig .tc := ⟨.hbm, 526, rfl⟩
abbrev main_v284 : Ref sig .tc := ⟨.hbm, 527, rfl⟩
abbrev main_c_116 : Ref sig .tc := ⟨.hbm, 528, rfl⟩
abbrev main_v285 : Ref sig .tc := ⟨.hbm, 529, rfl⟩
abbrev main_v286 : Ref sig .tc := ⟨.hbm, 530, rfl⟩
abbrev main_v287 : Ref sig .tc := ⟨.hbm, 531, rfl⟩
abbrev main_c_117 : Ref sig .tc := ⟨.hbm, 532, rfl⟩
abbrev main_v288 : Ref sig .tc := ⟨.hbm, 533, rfl⟩
abbrev main_v289 : Ref sig .tc := ⟨.hbm, 534, rfl⟩
abbrev main_c_118 : Ref sig .tc := ⟨.hbm, 535, rfl⟩
abbrev main_v290 : Ref sig .tc := ⟨.hbm, 536, rfl⟩
abbrev main_v291 : Ref sig .tc := ⟨.hbm, 537, rfl⟩
abbrev main_v292 : Ref sig .tc := ⟨.hbm, 538, rfl⟩
abbrev main_v293 : Ref sig .tc := ⟨.hbm, 539, rfl⟩
abbrev main_v294 : Ref sig .tc := ⟨.hbm, 540, rfl⟩
abbrev main_v295 : Ref sig .tc := ⟨.hbm, 541, rfl⟩
abbrev main_v296 : Ref sig .tc := ⟨.hbm, 542, rfl⟩
abbrev main_v297 : Ref sig .tc := ⟨.hbm, 543, rfl⟩
abbrev main_v298 : Ref sig .tc := ⟨.hbm, 544, rfl⟩
abbrev main_c_119 : Ref sig .tc := ⟨.hbm, 545, rfl⟩
abbrev main_v299 : Ref sig .tc := ⟨.hbm, 546, rfl⟩
abbrev main_v300 : Ref sig .tc := ⟨.hbm, 547, rfl⟩
abbrev main_v301 : Ref sig .tc := ⟨.hbm, 548, rfl⟩
abbrev main_v302 : Ref sig .tc := ⟨.hbm, 549, rfl⟩
abbrev main_c_120 : Ref sig .tc := ⟨.hbm, 550, rfl⟩
abbrev main_v303 : Ref sig .tc := ⟨.hbm, 551, rfl⟩
abbrev main_c_121 : Ref sig .tc := ⟨.hbm, 552, rfl⟩
abbrev main_v304 : Ref sig .tc := ⟨.hbm, 553, rfl⟩
abbrev main_v305 : Ref sig .tc := ⟨.hbm, 554, rfl⟩
abbrev main_v306 : Ref sig .tc := ⟨.hbm, 555, rfl⟩
abbrev main_c_122 : Ref sig .tc := ⟨.hbm, 556, rfl⟩
abbrev main_call29_v0 : Ref sig .tc := ⟨.hbm, 557, rfl⟩
abbrev main_call29_v1 : Ref sig .tc := ⟨.hbm, 558, rfl⟩
abbrev main_v307 : Ref sig .tc := ⟨.hbm, 559, rfl⟩
abbrev main_c_123 : Ref sig .tc := ⟨.hbm, 560, rfl⟩
abbrev main_v308 : Ref sig .tc := ⟨.hbm, 561, rfl⟩
abbrev main_v309 : Ref sig .tc := ⟨.hbm, 562, rfl⟩
abbrev main_v310 : Ref sig .tc := ⟨.hbm, 563, rfl⟩
abbrev main_c_124 : Ref sig .tc := ⟨.hbm, 564, rfl⟩
abbrev main_call30_v0 : Ref sig .tc := ⟨.hbm, 565, rfl⟩
abbrev main_call30_v1 : Ref sig .tc := ⟨.hbm, 566, rfl⟩
abbrev main_v311 : Ref sig .tc := ⟨.hbm, 567, rfl⟩
abbrev main_c_125 : Ref sig .tc := ⟨.hbm, 568, rfl⟩
abbrev main_v312 : Ref sig .tc := ⟨.hbm, 569, rfl⟩
abbrev main_v313 : Ref sig .tc := ⟨.hbm, 570, rfl⟩
abbrev main_c_126 : Ref sig .tc := ⟨.hbm, 571, rfl⟩
abbrev main_v314 : Ref sig .tc := ⟨.hbm, 572, rfl⟩
abbrev main_v315 : Ref sig .tc := ⟨.hbm, 573, rfl⟩
abbrev main_v316 : Ref sig .tc := ⟨.hbm, 574, rfl⟩
abbrev main_v317 : Ref sig .tc := ⟨.hbm, 575, rfl⟩
abbrev main_v318 : Ref sig .tc := ⟨.hbm, 576, rfl⟩
abbrev main_v319 : Ref sig .tc := ⟨.hbm, 577, rfl⟩
abbrev main_c_127 : Ref sig .tc := ⟨.hbm, 578, rfl⟩
abbrev main_v320 : Ref sig .tc := ⟨.hbm, 579, rfl⟩
abbrev main_v321 : Ref sig .tc := ⟨.hbm, 580, rfl⟩
abbrev main_c_128 : Ref sig .tc := ⟨.hbm, 581, rfl⟩
abbrev main_call31_v0 : Ref sig .tc := ⟨.hbm, 582, rfl⟩
abbrev main_call31_v1 : Ref sig .tc := ⟨.hbm, 583, rfl⟩
abbrev main_call31_v2 : Ref sig .tc := ⟨.hbm, 584, rfl⟩
abbrev main_call31_v3 : Ref sig .tc := ⟨.hbm, 585, rfl⟩
abbrev main_call31_v4 : Ref sig .tc := ⟨.hbm, 586, rfl⟩
abbrev main_call31_v5 : Ref sig .tc := ⟨.hbm, 587, rfl⟩
abbrev main_call31_v6 : Ref sig .tc := ⟨.hbm, 588, rfl⟩
abbrev main_call31_v7 : Ref sig .tc := ⟨.hbm, 589, rfl⟩
abbrev main_call31_v8 : Ref sig .tc := ⟨.hbm, 590, rfl⟩
abbrev main_call31_c : Ref sig .tc := ⟨.hbm, 591, rfl⟩
abbrev main_call31_v9 : Ref sig .tc := ⟨.hbm, 592, rfl⟩
abbrev main_call31_v10 : Ref sig .tc := ⟨.hbm, 593, rfl⟩
abbrev main_call31_v11 : Ref sig .tc := ⟨.hbm, 594, rfl⟩
abbrev main_call31_c_0 : Ref sig .tc := ⟨.hbm, 595, rfl⟩
abbrev main_call31_v12 : Ref sig .tc := ⟨.hbm, 596, rfl⟩
abbrev main_call31_v13 : Ref sig .tc := ⟨.hbm, 597, rfl⟩
abbrev main_v322 : Ref sig .tc := ⟨.hbm, 598, rfl⟩
abbrev main_c_129 : Ref sig .tc := ⟨.hbm, 599, rfl⟩
abbrev main_call32_v0 : Ref sig .tc := ⟨.hbm, 600, rfl⟩
abbrev main_call32_v1 : Ref sig .tc := ⟨.hbm, 601, rfl⟩
abbrev main_v323 : Ref sig .tc := ⟨.hbm, 602, rfl⟩
abbrev main_c_130 : Ref sig .tc := ⟨.hbm, 603, rfl⟩
abbrev main_v324 : Ref sig .tc := ⟨.hbm, 604, rfl⟩
abbrev main_v325 : Ref sig .tc := ⟨.hbm, 605, rfl⟩
abbrev main_c_131 : Ref sig .tc := ⟨.hbm, 606, rfl⟩
abbrev main_call33_v0 : Ref sig .tc := ⟨.hbm, 607, rfl⟩
abbrev main_call33_v1 : Ref sig .tc := ⟨.hbm, 608, rfl⟩
abbrev main_call33_v2 : Ref sig .tc := ⟨.hbm, 609, rfl⟩
abbrev main_call33_v3 : Ref sig .tc := ⟨.hbm, 610, rfl⟩
abbrev main_call33_v4 : Ref sig .tc := ⟨.hbm, 611, rfl⟩
abbrev main_call33_v5 : Ref sig .tc := ⟨.hbm, 612, rfl⟩
abbrev main_call33_v6 : Ref sig .tc := ⟨.hbm, 613, rfl⟩
abbrev main_call33_v7 : Ref sig .tc := ⟨.hbm, 614, rfl⟩
abbrev main_call33_v8 : Ref sig .tc := ⟨.hbm, 615, rfl⟩
abbrev main_call33_c : Ref sig .tc := ⟨.hbm, 616, rfl⟩
abbrev main_call33_v9 : Ref sig .tc := ⟨.hbm, 617, rfl⟩
abbrev main_call33_v10 : Ref sig .tc := ⟨.hbm, 618, rfl⟩
abbrev main_call33_v11 : Ref sig .tc := ⟨.hbm, 619, rfl⟩
abbrev main_call33_c_0 : Ref sig .tc := ⟨.hbm, 620, rfl⟩
abbrev main_call33_v12 : Ref sig .tc := ⟨.hbm, 621, rfl⟩
abbrev main_call33_v13 : Ref sig .tc := ⟨.hbm, 622, rfl⟩
abbrev main_v326 : Ref sig .tc := ⟨.hbm, 623, rfl⟩
abbrev main_c_132 : Ref sig .tc := ⟨.hbm, 624, rfl⟩
abbrev main_call34_v0 : Ref sig .tc := ⟨.hbm, 625, rfl⟩
abbrev main_call34_c : Ref sig .tc := ⟨.hbm, 626, rfl⟩
abbrev main_call34_v1 : Ref sig .tc := ⟨.hbm, 627, rfl⟩
abbrev main_call34_c_0 : Ref sig .tc := ⟨.hbm, 628, rfl⟩
abbrev main_call34_v2 : Ref sig .tc := ⟨.hbm, 629, rfl⟩
abbrev main_call34_v3 : Ref sig .tc := ⟨.hbm, 630, rfl⟩
abbrev main_call34_v4 : Ref sig .tc := ⟨.hbm, 631, rfl⟩
abbrev main_call34_c_1 : Ref sig .tc := ⟨.hbm, 632, rfl⟩
abbrev main_call34_v5 : Ref sig .tc := ⟨.hbm, 633, rfl⟩
abbrev main_call34_v6 : Ref sig .tc := ⟨.hbm, 634, rfl⟩
abbrev main_call34_c_2 : Ref sig .tc := ⟨.hbm, 635, rfl⟩
abbrev main_call34_v7 : Ref sig .tc := ⟨.hbm, 636, rfl⟩
abbrev main_call34_v8 : Ref sig .tc := ⟨.hbm, 637, rfl⟩
abbrev main_call34_c_3 : Ref sig .tc := ⟨.hbm, 638, rfl⟩
abbrev main_call34_v9 : Ref sig .tc := ⟨.hbm, 639, rfl⟩
abbrev main_call34_v10 : Ref sig .tc := ⟨.hbm, 640, rfl⟩
abbrev main_call34_v11 : Ref sig .tc := ⟨.hbm, 641, rfl⟩
abbrev main_call34_v12 : Ref sig .tc := ⟨.hbm, 642, rfl⟩
abbrev main_call34_v13 : Ref sig .tc := ⟨.hbm, 643, rfl⟩
abbrev main_call34_v14 : Ref sig .tc := ⟨.hbm, 644, rfl⟩
abbrev main_v327 : Ref sig .tc := ⟨.hbm, 645, rfl⟩
abbrev main_c_133 : Ref sig .tc := ⟨.hbm, 646, rfl⟩
abbrev main_call35_v0 : Ref sig .tc := ⟨.hbm, 647, rfl⟩
abbrev main_call35_v1 : Ref sig .tc := ⟨.hbm, 648, rfl⟩
abbrev main_v328 : Ref sig .tc := ⟨.hbm, 649, rfl⟩
abbrev main_c_134 : Ref sig .tc := ⟨.hbm, 650, rfl⟩
abbrev main_v329 : Ref sig .tc := ⟨.hbm, 651, rfl⟩
abbrev main_v330 : Ref sig .tc := ⟨.hbm, 652, rfl⟩
abbrev main_c_135 : Ref sig .tc := ⟨.hbm, 653, rfl⟩
abbrev main_call36_v0 : Ref sig .tc := ⟨.hbm, 654, rfl⟩
abbrev main_call36_c : Ref sig .tc := ⟨.hbm, 655, rfl⟩
abbrev main_call36_v1 : Ref sig .tc := ⟨.hbm, 656, rfl⟩
abbrev main_call36_c_0 : Ref sig .tc := ⟨.hbm, 657, rfl⟩
abbrev main_call36_v2 : Ref sig .tc := ⟨.hbm, 658, rfl⟩
abbrev main_call36_v3 : Ref sig .tc := ⟨.hbm, 659, rfl⟩
abbrev main_call36_v4 : Ref sig .tc := ⟨.hbm, 660, rfl⟩
abbrev main_call36_c_1 : Ref sig .tc := ⟨.hbm, 661, rfl⟩
abbrev main_call36_v5 : Ref sig .tc := ⟨.hbm, 662, rfl⟩
abbrev main_call36_v6 : Ref sig .tc := ⟨.hbm, 663, rfl⟩
abbrev main_call36_c_2 : Ref sig .tc := ⟨.hbm, 664, rfl⟩
abbrev main_call36_v7 : Ref sig .tc := ⟨.hbm, 665, rfl⟩
abbrev main_call36_v8 : Ref sig .tc := ⟨.hbm, 666, rfl⟩
abbrev main_call36_c_3 : Ref sig .tc := ⟨.hbm, 667, rfl⟩
abbrev main_call36_v9 : Ref sig .tc := ⟨.hbm, 668, rfl⟩
abbrev main_call36_v10 : Ref sig .tc := ⟨.hbm, 669, rfl⟩
abbrev main_call36_v11 : Ref sig .tc := ⟨.hbm, 670, rfl⟩
abbrev main_call36_v12 : Ref sig .tc := ⟨.hbm, 671, rfl⟩
abbrev main_call36_v13 : Ref sig .tc := ⟨.hbm, 672, rfl⟩
abbrev main_call36_v14 : Ref sig .tc := ⟨.hbm, 673, rfl⟩
abbrev main_v331 : Ref sig .tc := ⟨.hbm, 674, rfl⟩
abbrev main_c_136 : Ref sig .tc := ⟨.hbm, 675, rfl⟩
abbrev main_call37_v0 : Ref sig .tc := ⟨.hbm, 676, rfl⟩
abbrev main_call37_v1 : Ref sig .tc := ⟨.hbm, 677, rfl⟩
abbrev main_v332 : Ref sig .tc := ⟨.hbm, 678, rfl⟩
abbrev main_v333 : Ref sig .tc := ⟨.hbm, 679, rfl⟩
abbrev main_v334 : Ref sig .tc := ⟨.hbm, 680, rfl⟩
abbrev main_v335 : Ref sig .tc := ⟨.hbm, 681, rfl⟩
abbrev main_v336 : Ref sig .tc := ⟨.hbm, 682, rfl⟩
abbrev main_c_137 : Ref sig .tc := ⟨.hbm, 683, rfl⟩
abbrev main_v337 : Ref sig .tc := ⟨.hbm, 684, rfl⟩
abbrev main_v338 : Ref sig .tc := ⟨.hbm, 685, rfl⟩
abbrev main_v339 : Ref sig .tc := ⟨.hbm, 686, rfl⟩
abbrev main_v340 : Ref sig .tc := ⟨.hbm, 687, rfl⟩
abbrev main_c_138 : Ref sig .tc := ⟨.hbm, 688, rfl⟩
abbrev main_v341 : Ref sig .tc := ⟨.hbm, 689, rfl⟩
abbrev main_v342 : Ref sig .tc := ⟨.hbm, 690, rfl⟩
abbrev main_v343 : Ref sig .tc := ⟨.hbm, 691, rfl⟩
abbrev main_c_139 : Ref sig .tc := ⟨.hbm, 692, rfl⟩
abbrev main_v344 : Ref sig .tc := ⟨.hbm, 693, rfl⟩
abbrev main_c_140 : Ref sig .tc := ⟨.hbm, 694, rfl⟩
abbrev main_v345 : Ref sig .tc := ⟨.hbm, 695, rfl⟩
abbrev main_v346 : Ref sig .tc := ⟨.hbm, 696, rfl⟩
abbrev main_c_141 : Ref sig .tc := ⟨.hbm, 697, rfl⟩
abbrev main_v347 : Ref sig .tc := ⟨.hbm, 698, rfl⟩
abbrev main_v348 : Ref sig .tc := ⟨.hbm, 699, rfl⟩
abbrev main_v349 : Ref sig .tc := ⟨.hbm, 700, rfl⟩
abbrev main_v350 : Ref sig .tc := ⟨.hbm, 701, rfl⟩
abbrev main_v351 : Ref sig .tc := ⟨.hbm, 702, rfl⟩
abbrev main_c_142 : Ref sig .tc := ⟨.hbm, 703, rfl⟩
abbrev main_v352 : Ref sig .tc := ⟨.hbm, 704, rfl⟩
abbrev main_v353 : Ref sig .tc := ⟨.hbm, 705, rfl⟩
abbrev main_c_143 : Ref sig .tc := ⟨.hbm, 706, rfl⟩
abbrev main_v354 : Ref sig .tc := ⟨.hbm, 707, rfl⟩
abbrev main_v355 : Ref sig .tc := ⟨.hbm, 708, rfl⟩
abbrev main_v356 : Ref sig .tc := ⟨.hbm, 709, rfl⟩
abbrev main_v357 : Ref sig .tc := ⟨.hbm, 710, rfl⟩
abbrev main_v358 : Ref sig .tc := ⟨.hbm, 711, rfl⟩
abbrev main_v359 : Ref sig .tc := ⟨.hbm, 712, rfl⟩
abbrev main_v360 : Ref sig .tc := ⟨.hbm, 713, rfl⟩
abbrev main_v361 : Ref sig .tc := ⟨.hbm, 714, rfl⟩
abbrev main_call38_call0_c : Ref sig .tc := ⟨.hbm, 715, rfl⟩
abbrev main_call38_call0_v0 : Ref sig .tc := ⟨.hbm, 716, rfl⟩
abbrev main_v362 : Ref sig .tc := ⟨.hbm, 717, rfl⟩
abbrev main_c_144 : Ref sig .tc := ⟨.hbm, 718, rfl⟩
abbrev main_v363 : Ref sig .tc := ⟨.hbm, 719, rfl⟩
abbrev main_v364 : Ref sig .tc := ⟨.hbm, 720, rfl⟩
abbrev main_c_145 : Ref sig .tc := ⟨.hbm, 721, rfl⟩
abbrev main_v365 : Ref sig .tc := ⟨.hbm, 722, rfl⟩
abbrev main_c_146 : Ref sig .tc := ⟨.hbm, 723, rfl⟩
abbrev main_call39_v0 : Ref sig .tc := ⟨.hbm, 724, rfl⟩
abbrev main_call39_v1 : Ref sig .tc := ⟨.hbm, 725, rfl⟩
abbrev main_v366 : Ref sig .tc := ⟨.hbm, 726, rfl⟩
abbrev main_c_147 : Ref sig .tc := ⟨.hbm, 727, rfl⟩
abbrev main_v367 : Ref sig .tc := ⟨.hbm, 728, rfl⟩
abbrev main_v368 : Ref sig .tc := ⟨.hbm, 729, rfl⟩
abbrev main_c_148 : Ref sig .tc := ⟨.hbm, 730, rfl⟩
abbrev main_call40_v0 : Ref sig .tc := ⟨.hbm, 731, rfl⟩
abbrev main_call40_v1 : Ref sig .tc := ⟨.hbm, 732, rfl⟩
abbrev main_v369 : Ref sig .tc := ⟨.hbm, 733, rfl⟩
abbrev main_c_149 : Ref sig .tc := ⟨.hbm, 734, rfl⟩
abbrev main_v370 : Ref sig .tc := ⟨.hbm, 735, rfl⟩
abbrev main_v371 : Ref sig .tc := ⟨.hbm, 736, rfl⟩
abbrev main_c_150 : Ref sig .tc := ⟨.hbm, 737, rfl⟩
abbrev main_v372 : Ref sig .tc := ⟨.hbm, 738, rfl⟩
abbrev main_v373 : Ref sig .tc := ⟨.hbm, 739, rfl⟩
abbrev main_v374 : Ref sig .tc := ⟨.hbm, 740, rfl⟩
abbrev main_v375 : Ref sig .tc := ⟨.hbm, 741, rfl⟩
abbrev main_v376 : Ref sig .tc := ⟨.hbm, 742, rfl⟩
abbrev main_c_151 : Ref sig .tc := ⟨.hbm, 743, rfl⟩
abbrev main_v377 : Ref sig .tc := ⟨.hbm, 744, rfl⟩
abbrev main_v378 : Ref sig .tc := ⟨.hbm, 745, rfl⟩
abbrev main_c_152 : Ref sig .tc := ⟨.hbm, 746, rfl⟩
abbrev main_v379 : Ref sig .tc := ⟨.hbm, 747, rfl⟩
abbrev main_v380 : Ref sig .tc := ⟨.hbm, 748, rfl⟩
abbrev main_v381 : Ref sig .tc := ⟨.hbm, 749, rfl⟩
abbrev main_v382 : Ref sig .tc := ⟨.hbm, 750, rfl⟩
abbrev main_v383 : Ref sig .tc := ⟨.hbm, 751, rfl⟩
abbrev main_c_153 : Ref sig .tc := ⟨.hbm, 752, rfl⟩
abbrev main_call41_v0 : Ref sig .tc := ⟨.hbm, 753, rfl⟩
abbrev main_call41_v1 : Ref sig .tc := ⟨.hbm, 754, rfl⟩
abbrev main_v384 : Ref sig .tc := ⟨.hbm, 755, rfl⟩
abbrev main_call42_v0 : Ref sig .tc := ⟨.hbm, 756, rfl⟩
abbrev main_call42_v1_0 : Ref sig .tc := ⟨.hbm, 757, rfl⟩
abbrev main_v385 : Ref sig .tc := ⟨.hbm, 758, rfl⟩
abbrev main_c_154 : Ref sig .tc := ⟨.hbm, 759, rfl⟩
abbrev main_v386 : Ref sig .tc := ⟨.hbm, 760, rfl⟩
abbrev main_v387 : Ref sig .tc := ⟨.hbm, 761, rfl⟩
abbrev main_c_155 : Ref sig .tc := ⟨.hbm, 762, rfl⟩
abbrev main_v388 : Ref sig .tc := ⟨.hbm, 763, rfl⟩
abbrev main_v389 : Ref sig .tc := ⟨.hbm, 764, rfl⟩
abbrev main_v390 : Ref sig .tc := ⟨.hbm, 765, rfl⟩
abbrev main_v391 : Ref sig .tc := ⟨.hbm, 766, rfl⟩
abbrev main_v392 : Ref sig .tc := ⟨.hbm, 767, rfl⟩
abbrev main_c_156 : Ref sig .tc := ⟨.hbm, 768, rfl⟩
abbrev main_v393 : Ref sig .tc := ⟨.hbm, 769, rfl⟩
abbrev main_v394 : Ref sig .tc := ⟨.hbm, 770, rfl⟩
abbrev main_v395 : Ref sig .tc := ⟨.hbm, 771, rfl⟩
abbrev main_v396 : Ref sig .tc := ⟨.hbm, 772, rfl⟩
abbrev main_v397 : Ref sig .tc := ⟨.hbm, 773, rfl⟩
abbrev main_c_157 : Ref sig .tc := ⟨.hbm, 774, rfl⟩
abbrev main_call43_v0 : Ref sig .tc := ⟨.hbm, 775, rfl⟩
abbrev main_call43_v1 : Ref sig .tc := ⟨.hbm, 776, rfl⟩
abbrev main_v398 : Ref sig .tc := ⟨.hbm, 777, rfl⟩
abbrev main_call44_c : Ref sig .tc := ⟨.hbm, 778, rfl⟩
abbrev main_call44_v0 : Ref sig .tc := ⟨.hbm, 779, rfl⟩
abbrev main_v399 : Ref sig .tc := ⟨.hbm, 780, rfl⟩
abbrev main_c_158 : Ref sig .tc := ⟨.hbm, 781, rfl⟩
abbrev main_v400 : Ref sig .tc := ⟨.hbm, 782, rfl⟩
abbrev main_v401 : Ref sig .tc := ⟨.hbm, 783, rfl⟩
abbrev main_c_159 : Ref sig .tc := ⟨.hbm, 784, rfl⟩
abbrev main_v402 : Ref sig .tc := ⟨.hbm, 785, rfl⟩
abbrev main_v403 : Ref sig .tc := ⟨.hbm, 786, rfl⟩
abbrev main_c_160 : Ref sig .tc := ⟨.hbm, 787, rfl⟩
abbrev main_v404 : Ref sig .tc := ⟨.hbm, 788, rfl⟩
abbrev main_v405 : Ref sig .tc := ⟨.hbm, 789, rfl⟩
abbrev main_v406 : Ref sig .tc := ⟨.hbm, 790, rfl⟩
abbrev main_v407 : Ref sig .tc := ⟨.hbm, 791, rfl⟩
abbrev main_v408 : Ref sig .tc := ⟨.hbm, 792, rfl⟩
abbrev main_c_161 : Ref sig .tc := ⟨.hbm, 793, rfl⟩
abbrev main_v409 : Ref sig .tc := ⟨.hbm, 794, rfl⟩
abbrev main_v410 : Ref sig .tc := ⟨.hbm, 795, rfl⟩
abbrev main_v411 : Ref sig .tc := ⟨.hbm, 796, rfl⟩
abbrev main_c_162 : Ref sig .tc := ⟨.hbm, 797, rfl⟩
abbrev main_v412 : Ref sig .tc := ⟨.hbm, 798, rfl⟩
abbrev main_v413 : Ref sig .tc := ⟨.hbm, 799, rfl⟩
abbrev main_v414 : Ref sig .tc := ⟨.hbm, 800, rfl⟩
abbrev main_c_163 : Ref sig .tc := ⟨.hbm, 801, rfl⟩
abbrev main_call45_v0 : Ref sig .tc := ⟨.hbm, 802, rfl⟩
abbrev main_call45_v1 : Ref sig .tc := ⟨.hbm, 803, rfl⟩
abbrev main_v415 : Ref sig .tc := ⟨.hbm, 804, rfl⟩
abbrev main_c_164 : Ref sig .tc := ⟨.hbm, 805, rfl⟩
abbrev main_call46_v0 : Ref sig .tc := ⟨.hbm, 806, rfl⟩
abbrev main_call46_v1 : Ref sig .tc := ⟨.hbm, 807, rfl⟩
abbrev main_v416 : Ref sig .tc := ⟨.hbm, 808, rfl⟩
abbrev main_cst_165 : Ref sig .tc := ⟨.hbm, 809, rfl⟩
abbrev main_v417 : Ref sig .tc := ⟨.hbm, 810, rfl⟩
abbrev main_v418 : Ref sig .tc := ⟨.hbm, 811, rfl⟩
abbrev main_cst_166 : Ref sig .tc := ⟨.hbm, 812, rfl⟩
abbrev main_call47_v0 : Ref sig .tc := ⟨.hbm, 813, rfl⟩
abbrev main_call47_v1 : Ref sig .tc := ⟨.hbm, 814, rfl⟩
abbrev main_call47_v2 : Ref sig .tc := ⟨.hbm, 815, rfl⟩
abbrev main_v419 : Ref sig .tc := ⟨.hbm, 816, rfl⟩
abbrev main_c_167 : Ref sig .tc := ⟨.hbm, 817, rfl⟩
abbrev main_v420 : Ref sig .tc := ⟨.hbm, 818, rfl⟩
abbrev main_v421 : Ref sig .tc := ⟨.hbm, 819, rfl⟩
abbrev main_c_168 : Ref sig .tc := ⟨.hbm, 820, rfl⟩
abbrev main_v422 : Ref sig .tc := ⟨.hbm, 821, rfl⟩
abbrev main_v423 : Ref sig .tc := ⟨.hbm, 822, rfl⟩
abbrev main_v424 : Ref sig .tc := ⟨.hbm, 823, rfl⟩
abbrev main_c_169 : Ref sig .tc := ⟨.hbm, 824, rfl⟩
abbrev main_v425 : Ref sig .tc := ⟨.hbm, 825, rfl⟩
abbrev main_v426 : Ref sig .tc := ⟨.hbm, 826, rfl⟩
abbrev main_c_170 : Ref sig .tc := ⟨.hbm, 827, rfl⟩
abbrev main_v427 : Ref sig .tc := ⟨.hbm, 828, rfl⟩
abbrev main_v428 : Ref sig .tc := ⟨.hbm, 829, rfl⟩
abbrev main_v429 : Ref sig .tc := ⟨.hbm, 830, rfl⟩
abbrev main_v430 : Ref sig .tc := ⟨.hbm, 831, rfl⟩
abbrev main_v431 : Ref sig .tc := ⟨.hbm, 832, rfl⟩
abbrev main_v432 : Ref sig .tc := ⟨.hbm, 833, rfl⟩
abbrev main_v433 : Ref sig .tc := ⟨.hbm, 834, rfl⟩
abbrev main_v434 : Ref sig .tc := ⟨.hbm, 835, rfl⟩
abbrev main_v435 : Ref sig .tc := ⟨.hbm, 836, rfl⟩
abbrev main_c_171 : Ref sig .tc := ⟨.hbm, 837, rfl⟩
abbrev main_v436 : Ref sig .tc := ⟨.hbm, 838, rfl⟩
abbrev main_v437 : Ref sig .tc := ⟨.hbm, 839, rfl⟩
abbrev main_v438 : Ref sig .tc := ⟨.hbm, 840, rfl⟩
abbrev main_v439 : Ref sig .tc := ⟨.hbm, 841, rfl⟩
abbrev main_c_172 : Ref sig .tc := ⟨.hbm, 842, rfl⟩
abbrev main_v440 : Ref sig .tc := ⟨.hbm, 843, rfl⟩
abbrev main_c_173 : Ref sig .tc := ⟨.hbm, 844, rfl⟩
abbrev main_v441 : Ref sig .tc := ⟨.hbm, 845, rfl⟩
abbrev main_v442 : Ref sig .tc := ⟨.hbm, 846, rfl⟩
abbrev main_v443 : Ref sig .tc := ⟨.hbm, 847, rfl⟩
abbrev main_c_174 : Ref sig .tc := ⟨.hbm, 848, rfl⟩
abbrev main_call48_v0 : Ref sig .tc := ⟨.hbm, 849, rfl⟩
abbrev main_call48_v1 : Ref sig .tc := ⟨.hbm, 850, rfl⟩
abbrev main_v444 : Ref sig .tc := ⟨.hbm, 851, rfl⟩
abbrev main_c_175 : Ref sig .tc := ⟨.hbm, 852, rfl⟩
abbrev main_v445 : Ref sig .tc := ⟨.hbm, 853, rfl⟩
abbrev main_v446 : Ref sig .tc := ⟨.hbm, 854, rfl⟩
abbrev main_v447 : Ref sig .tc := ⟨.hbm, 855, rfl⟩
abbrev main_c_176 : Ref sig .tc := ⟨.hbm, 856, rfl⟩
abbrev main_call49_v0 : Ref sig .tc := ⟨.hbm, 857, rfl⟩
abbrev main_call49_v1 : Ref sig .tc := ⟨.hbm, 858, rfl⟩
abbrev main_v448 : Ref sig .tc := ⟨.hbm, 859, rfl⟩
abbrev main_c_177 : Ref sig .tc := ⟨.hbm, 860, rfl⟩
abbrev main_v449 : Ref sig .tc := ⟨.hbm, 861, rfl⟩
abbrev main_v450 : Ref sig .tc := ⟨.hbm, 862, rfl⟩
abbrev main_c_178 : Ref sig .tc := ⟨.hbm, 863, rfl⟩
abbrev main_v451 : Ref sig .tc := ⟨.hbm, 864, rfl⟩
abbrev main_v452 : Ref sig .tc := ⟨.hbm, 865, rfl⟩
abbrev main_v453 : Ref sig .tc := ⟨.hbm, 866, rfl⟩
abbrev main_v454 : Ref sig .tc := ⟨.hbm, 867, rfl⟩
abbrev main_v455 : Ref sig .tc := ⟨.hbm, 868, rfl⟩
abbrev main_v456 : Ref sig .tc := ⟨.hbm, 869, rfl⟩
abbrev main_c_179 : Ref sig .tc := ⟨.hbm, 870, rfl⟩
abbrev main_v457 : Ref sig .tc := ⟨.hbm, 871, rfl⟩
abbrev main_v458 : Ref sig .tc := ⟨.hbm, 872, rfl⟩
abbrev main_c_180 : Ref sig .tc := ⟨.hbm, 873, rfl⟩
abbrev main_call50_v0 : Ref sig .tc := ⟨.hbm, 874, rfl⟩
abbrev main_call50_v1 : Ref sig .tc := ⟨.hbm, 875, rfl⟩
abbrev main_call50_v2 : Ref sig .tc := ⟨.hbm, 876, rfl⟩
abbrev main_call50_v3 : Ref sig .tc := ⟨.hbm, 877, rfl⟩
abbrev main_call50_v4 : Ref sig .tc := ⟨.hbm, 878, rfl⟩
abbrev main_call50_v5 : Ref sig .tc := ⟨.hbm, 879, rfl⟩
abbrev main_call50_v6 : Ref sig .tc := ⟨.hbm, 880, rfl⟩
abbrev main_call50_v7 : Ref sig .tc := ⟨.hbm, 881, rfl⟩
abbrev main_call50_v8 : Ref sig .tc := ⟨.hbm, 882, rfl⟩
abbrev main_call50_c : Ref sig .tc := ⟨.hbm, 883, rfl⟩
abbrev main_call50_v9 : Ref sig .tc := ⟨.hbm, 884, rfl⟩
abbrev main_call50_v10 : Ref sig .tc := ⟨.hbm, 885, rfl⟩
abbrev main_call50_v11 : Ref sig .tc := ⟨.hbm, 886, rfl⟩
abbrev main_call50_c_0 : Ref sig .tc := ⟨.hbm, 887, rfl⟩
abbrev main_call50_v12 : Ref sig .tc := ⟨.hbm, 888, rfl⟩
abbrev main_call50_v13 : Ref sig .tc := ⟨.hbm, 889, rfl⟩
abbrev main_v459 : Ref sig .tc := ⟨.hbm, 890, rfl⟩
abbrev main_c_181 : Ref sig .tc := ⟨.hbm, 891, rfl⟩
abbrev main_call51_v0 : Ref sig .tc := ⟨.hbm, 892, rfl⟩
abbrev main_call51_v1 : Ref sig .tc := ⟨.hbm, 893, rfl⟩
abbrev main_v460 : Ref sig .tc := ⟨.hbm, 894, rfl⟩
abbrev main_c_182 : Ref sig .tc := ⟨.hbm, 895, rfl⟩
abbrev main_v461 : Ref sig .tc := ⟨.hbm, 896, rfl⟩
abbrev main_v462 : Ref sig .tc := ⟨.hbm, 897, rfl⟩
abbrev main_c_183 : Ref sig .tc := ⟨.hbm, 898, rfl⟩
abbrev main_call52_v0 : Ref sig .tc := ⟨.hbm, 899, rfl⟩
abbrev main_call52_v1 : Ref sig .tc := ⟨.hbm, 900, rfl⟩
abbrev main_call52_v2 : Ref sig .tc := ⟨.hbm, 901, rfl⟩
abbrev main_call52_v3 : Ref sig .tc := ⟨.hbm, 902, rfl⟩
abbrev main_call52_v4 : Ref sig .tc := ⟨.hbm, 903, rfl⟩
abbrev main_call52_v5 : Ref sig .tc := ⟨.hbm, 904, rfl⟩
abbrev main_call52_v6 : Ref sig .tc := ⟨.hbm, 905, rfl⟩
abbrev main_call52_v7 : Ref sig .tc := ⟨.hbm, 906, rfl⟩
abbrev main_call52_v8 : Ref sig .tc := ⟨.hbm, 907, rfl⟩
abbrev main_call52_c : Ref sig .tc := ⟨.hbm, 908, rfl⟩
abbrev main_call52_v9 : Ref sig .tc := ⟨.hbm, 909, rfl⟩
abbrev main_call52_v10 : Ref sig .tc := ⟨.hbm, 910, rfl⟩
abbrev main_call52_v11 : Ref sig .tc := ⟨.hbm, 911, rfl⟩
abbrev main_call52_c_0 : Ref sig .tc := ⟨.hbm, 912, rfl⟩
abbrev main_call52_v12 : Ref sig .tc := ⟨.hbm, 913, rfl⟩
abbrev main_call52_v13 : Ref sig .tc := ⟨.hbm, 914, rfl⟩
abbrev main_v463 : Ref sig .tc := ⟨.hbm, 915, rfl⟩
abbrev main_c_184 : Ref sig .tc := ⟨.hbm, 916, rfl⟩
abbrev main_call53_v0 : Ref sig .tc := ⟨.hbm, 917, rfl⟩
abbrev main_call53_c : Ref sig .tc := ⟨.hbm, 918, rfl⟩
abbrev main_call53_v1 : Ref sig .tc := ⟨.hbm, 919, rfl⟩
abbrev main_call53_c_0 : Ref sig .tc := ⟨.hbm, 920, rfl⟩
abbrev main_call53_v2 : Ref sig .tc := ⟨.hbm, 921, rfl⟩
abbrev main_call53_v3 : Ref sig .tc := ⟨.hbm, 922, rfl⟩
abbrev main_call53_v4 : Ref sig .tc := ⟨.hbm, 923, rfl⟩
abbrev main_call53_c_1 : Ref sig .tc := ⟨.hbm, 924, rfl⟩
abbrev main_call53_v5 : Ref sig .tc := ⟨.hbm, 925, rfl⟩
abbrev main_call53_v6 : Ref sig .tc := ⟨.hbm, 926, rfl⟩
abbrev main_call53_c_2 : Ref sig .tc := ⟨.hbm, 927, rfl⟩
abbrev main_call53_v7 : Ref sig .tc := ⟨.hbm, 928, rfl⟩
abbrev main_call53_v8 : Ref sig .tc := ⟨.hbm, 929, rfl⟩
abbrev main_call53_c_3 : Ref sig .tc := ⟨.hbm, 930, rfl⟩
abbrev main_call53_v9 : Ref sig .tc := ⟨.hbm, 931, rfl⟩
abbrev main_call53_v10 : Ref sig .tc := ⟨.hbm, 932, rfl⟩
abbrev main_call53_v11 : Ref sig .tc := ⟨.hbm, 933, rfl⟩
abbrev main_call53_v12 : Ref sig .tc := ⟨.hbm, 934, rfl⟩
abbrev main_call53_v13 : Ref sig .tc := ⟨.hbm, 935, rfl⟩
abbrev main_call53_v14 : Ref sig .tc := ⟨.hbm, 936, rfl⟩
abbrev main_v464 : Ref sig .tc := ⟨.hbm, 937, rfl⟩
abbrev main_c_185 : Ref sig .tc := ⟨.hbm, 938, rfl⟩
abbrev main_call54_v0 : Ref sig .tc := ⟨.hbm, 939, rfl⟩
abbrev main_call54_v1 : Ref sig .tc := ⟨.hbm, 940, rfl⟩
abbrev main_v465 : Ref sig .tc := ⟨.hbm, 941, rfl⟩
abbrev main_c_186 : Ref sig .tc := ⟨.hbm, 942, rfl⟩
abbrev main_v466 : Ref sig .tc := ⟨.hbm, 943, rfl⟩
abbrev main_v467 : Ref sig .tc := ⟨.hbm, 944, rfl⟩
abbrev main_c_187 : Ref sig .tc := ⟨.hbm, 945, rfl⟩
abbrev main_call55_v0 : Ref sig .tc := ⟨.hbm, 946, rfl⟩
abbrev main_call55_c : Ref sig .tc := ⟨.hbm, 947, rfl⟩
abbrev main_call55_v1 : Ref sig .tc := ⟨.hbm, 948, rfl⟩
abbrev main_call55_c_0 : Ref sig .tc := ⟨.hbm, 949, rfl⟩
abbrev main_call55_v2 : Ref sig .tc := ⟨.hbm, 950, rfl⟩
abbrev main_call55_v3 : Ref sig .tc := ⟨.hbm, 951, rfl⟩
abbrev main_call55_v4 : Ref sig .tc := ⟨.hbm, 952, rfl⟩
abbrev main_call55_c_1 : Ref sig .tc := ⟨.hbm, 953, rfl⟩
abbrev main_call55_v5 : Ref sig .tc := ⟨.hbm, 954, rfl⟩
abbrev main_call55_v6 : Ref sig .tc := ⟨.hbm, 955, rfl⟩
abbrev main_call55_c_2 : Ref sig .tc := ⟨.hbm, 956, rfl⟩
abbrev main_call55_v7 : Ref sig .tc := ⟨.hbm, 957, rfl⟩
abbrev main_call55_v8 : Ref sig .tc := ⟨.hbm, 958, rfl⟩
abbrev main_call55_c_3 : Ref sig .tc := ⟨.hbm, 959, rfl⟩
abbrev main_call55_v9 : Ref sig .tc := ⟨.hbm, 960, rfl⟩
abbrev main_call55_v10 : Ref sig .tc := ⟨.hbm, 961, rfl⟩
abbrev main_call55_v11 : Ref sig .tc := ⟨.hbm, 962, rfl⟩
abbrev main_call55_v12 : Ref sig .tc := ⟨.hbm, 963, rfl⟩
abbrev main_call55_v13 : Ref sig .tc := ⟨.hbm, 964, rfl⟩
abbrev main_call55_v14 : Ref sig .tc := ⟨.hbm, 965, rfl⟩
abbrev main_v468 : Ref sig .tc := ⟨.hbm, 966, rfl⟩
abbrev main_c_188 : Ref sig .tc := ⟨.hbm, 967, rfl⟩
abbrev main_call56_v0 : Ref sig .tc := ⟨.hbm, 968, rfl⟩
abbrev main_call56_v1 : Ref sig .tc := ⟨.hbm, 969, rfl⟩
abbrev main_v469 : Ref sig .tc := ⟨.hbm, 970, rfl⟩
abbrev main_v470 : Ref sig .tc := ⟨.hbm, 971, rfl⟩
abbrev main_v471 : Ref sig .tc := ⟨.hbm, 972, rfl⟩
abbrev main_v472 : Ref sig .tc := ⟨.hbm, 973, rfl⟩
abbrev main_v473 : Ref sig .tc := ⟨.hbm, 974, rfl⟩
abbrev main_c_189 : Ref sig .tc := ⟨.hbm, 975, rfl⟩
abbrev main_v474 : Ref sig .tc := ⟨.hbm, 976, rfl⟩
abbrev main_v475 : Ref sig .tc := ⟨.hbm, 977, rfl⟩
abbrev main_v476 : Ref sig .tc := ⟨.hbm, 978, rfl⟩
abbrev main_v477 : Ref sig .tc := ⟨.hbm, 979, rfl⟩
abbrev main_c_190 : Ref sig .tc := ⟨.hbm, 980, rfl⟩
abbrev main_v478 : Ref sig .tc := ⟨.hbm, 981, rfl⟩
abbrev main_v479 : Ref sig .tc := ⟨.hbm, 982, rfl⟩
abbrev main_v480 : Ref sig .tc := ⟨.hbm, 983, rfl⟩
abbrev main_c_191 : Ref sig .tc := ⟨.hbm, 984, rfl⟩
abbrev main_v481 : Ref sig .tc := ⟨.hbm, 985, rfl⟩
abbrev main_c_192 : Ref sig .tc := ⟨.hbm, 986, rfl⟩
abbrev main_v482 : Ref sig .tc := ⟨.hbm, 987, rfl⟩
abbrev main_v483 : Ref sig .tc := ⟨.hbm, 988, rfl⟩
abbrev main_c_193 : Ref sig .tc := ⟨.hbm, 989, rfl⟩
abbrev main_v484 : Ref sig .tc := ⟨.hbm, 990, rfl⟩
abbrev main_v485 : Ref sig .tc := ⟨.hbm, 991, rfl⟩
abbrev main_v486 : Ref sig .tc := ⟨.hbm, 992, rfl⟩
abbrev main_v487 : Ref sig .tc := ⟨.hbm, 993, rfl⟩
abbrev main_v488 : Ref sig .tc := ⟨.hbm, 994, rfl⟩
abbrev main_c_194 : Ref sig .tc := ⟨.hbm, 995, rfl⟩
abbrev main_v489 : Ref sig .tc := ⟨.hbm, 996, rfl⟩
abbrev main_v490 : Ref sig .tc := ⟨.hbm, 997, rfl⟩
abbrev main_c_195 : Ref sig .tc := ⟨.hbm, 998, rfl⟩
abbrev main_v491 : Ref sig .tc := ⟨.hbm, 999, rfl⟩
abbrev main_v492 : Ref sig .tc := ⟨.hbm, 1000, rfl⟩
abbrev main_v493 : Ref sig .tc := ⟨.hbm, 1001, rfl⟩
abbrev main_v494 : Ref sig .tc := ⟨.hbm, 1002, rfl⟩
abbrev main_v495 : Ref sig .tc := ⟨.hbm, 1003, rfl⟩
abbrev main_v496 : Ref sig .tc := ⟨.hbm, 1004, rfl⟩
abbrev main_v497 : Ref sig .tc := ⟨.hbm, 1005, rfl⟩
abbrev main_v498 : Ref sig .tc := ⟨.hbm, 1006, rfl⟩
abbrev main_call57_call0_c : Ref sig .tc := ⟨.hbm, 1007, rfl⟩
abbrev main_call57_call0_v0 : Ref sig .tc := ⟨.hbm, 1008, rfl⟩
abbrev main_v499 : Ref sig .tc := ⟨.hbm, 1009, rfl⟩
abbrev main_c_196 : Ref sig .tc := ⟨.hbm, 1010, rfl⟩
abbrev main_v500 : Ref sig .tc := ⟨.hbm, 1011, rfl⟩
abbrev main_v501 : Ref sig .tc := ⟨.hbm, 1012, rfl⟩
abbrev main_c_197 : Ref sig .tc := ⟨.hbm, 1013, rfl⟩
abbrev main_v502 : Ref sig .tc := ⟨.hbm, 1014, rfl⟩
abbrev main_c_198 : Ref sig .tc := ⟨.hbm, 1015, rfl⟩
abbrev main_call58_v0 : Ref sig .tc := ⟨.hbm, 1016, rfl⟩
abbrev main_call58_v1 : Ref sig .tc := ⟨.hbm, 1017, rfl⟩
abbrev main_v503 : Ref sig .tc := ⟨.hbm, 1018, rfl⟩
abbrev main_c_199 : Ref sig .tc := ⟨.hbm, 1019, rfl⟩
abbrev main_v504 : Ref sig .tc := ⟨.hbm, 1020, rfl⟩
abbrev main_v505 : Ref sig .tc := ⟨.hbm, 1021, rfl⟩
abbrev main_c_200 : Ref sig .tc := ⟨.hbm, 1022, rfl⟩
abbrev main_call59_v0 : Ref sig .tc := ⟨.hbm, 1023, rfl⟩
abbrev main_call59_v1 : Ref sig .tc := ⟨.hbm, 1024, rfl⟩
abbrev main_v506 : Ref sig .tc := ⟨.hbm, 1025, rfl⟩
abbrev main_c_201 : Ref sig .tc := ⟨.hbm, 1026, rfl⟩
abbrev main_v507 : Ref sig .tc := ⟨.hbm, 1027, rfl⟩
abbrev main_v508 : Ref sig .tc := ⟨.hbm, 1028, rfl⟩
abbrev main_c_202 : Ref sig .tc := ⟨.hbm, 1029, rfl⟩
abbrev main_v509 : Ref sig .tc := ⟨.hbm, 1030, rfl⟩
abbrev main_v510 : Ref sig .tc := ⟨.hbm, 1031, rfl⟩
abbrev main_v511 : Ref sig .tc := ⟨.hbm, 1032, rfl⟩
abbrev main_v512 : Ref sig .tc := ⟨.hbm, 1033, rfl⟩
abbrev main_v513 : Ref sig .tc := ⟨.hbm, 1034, rfl⟩
abbrev main_c_203 : Ref sig .tc := ⟨.hbm, 1035, rfl⟩
abbrev main_v514 : Ref sig .tc := ⟨.hbm, 1036, rfl⟩
abbrev main_v515 : Ref sig .tc := ⟨.hbm, 1037, rfl⟩
abbrev main_c_204 : Ref sig .tc := ⟨.hbm, 1038, rfl⟩
abbrev main_v516 : Ref sig .tc := ⟨.hbm, 1039, rfl⟩
abbrev main_v517 : Ref sig .tc := ⟨.hbm, 1040, rfl⟩
abbrev main_v518 : Ref sig .tc := ⟨.hbm, 1041, rfl⟩
abbrev main_v519 : Ref sig .tc := ⟨.hbm, 1042, rfl⟩
abbrev main_v520 : Ref sig .tc := ⟨.hbm, 1043, rfl⟩
abbrev main_c_205 : Ref sig .tc := ⟨.hbm, 1044, rfl⟩
abbrev main_call60_v0 : Ref sig .tc := ⟨.hbm, 1045, rfl⟩
abbrev main_call60_v1 : Ref sig .tc := ⟨.hbm, 1046, rfl⟩
abbrev main_v521 : Ref sig .tc := ⟨.hbm, 1047, rfl⟩
abbrev main_call61_v0 : Ref sig .tc := ⟨.hbm, 1048, rfl⟩
abbrev main_call61_v1_0 : Ref sig .tc := ⟨.hbm, 1049, rfl⟩
abbrev main_v522 : Ref sig .tc := ⟨.hbm, 1050, rfl⟩
abbrev main_c_206 : Ref sig .tc := ⟨.hbm, 1051, rfl⟩
abbrev main_v523 : Ref sig .tc := ⟨.hbm, 1052, rfl⟩
abbrev main_v524 : Ref sig .tc := ⟨.hbm, 1053, rfl⟩
abbrev main_c_207 : Ref sig .tc := ⟨.hbm, 1054, rfl⟩
abbrev main_v525 : Ref sig .tc := ⟨.hbm, 1055, rfl⟩
abbrev main_v526 : Ref sig .tc := ⟨.hbm, 1056, rfl⟩
abbrev main_v527 : Ref sig .tc := ⟨.hbm, 1057, rfl⟩
abbrev main_v528 : Ref sig .tc := ⟨.hbm, 1058, rfl⟩
abbrev main_v529 : Ref sig .tc := ⟨.hbm, 1059, rfl⟩
abbrev main_c_208 : Ref sig .tc := ⟨.hbm, 1060, rfl⟩
abbrev main_v530 : Ref sig .tc := ⟨.hbm, 1061, rfl⟩
abbrev main_v531 : Ref sig .tc := ⟨.hbm, 1062, rfl⟩
abbrev main_v532 : Ref sig .tc := ⟨.hbm, 1063, rfl⟩
abbrev main_v533 : Ref sig .tc := ⟨.hbm, 1064, rfl⟩
abbrev main_v534 : Ref sig .tc := ⟨.hbm, 1065, rfl⟩
abbrev main_c_209 : Ref sig .tc := ⟨.hbm, 1066, rfl⟩
abbrev main_call62_v0 : Ref sig .tc := ⟨.hbm, 1067, rfl⟩
abbrev main_call62_v1 : Ref sig .tc := ⟨.hbm, 1068, rfl⟩
abbrev main_v535 : Ref sig .tc := ⟨.hbm, 1069, rfl⟩
abbrev main_call63_c : Ref sig .tc := ⟨.hbm, 1070, rfl⟩
abbrev main_call63_v0 : Ref sig .tc := ⟨.hbm, 1071, rfl⟩
abbrev main_v536 : Ref sig .tc := ⟨.hbm, 1072, rfl⟩
abbrev main_c_210 : Ref sig .tc := ⟨.hbm, 1073, rfl⟩
abbrev main_v537 : Ref sig .tc := ⟨.hbm, 1074, rfl⟩
abbrev main_v538 : Ref sig .tc := ⟨.hbm, 1075, rfl⟩
abbrev main_c_211 : Ref sig .tc := ⟨.hbm, 1076, rfl⟩
abbrev main_v539 : Ref sig .tc := ⟨.hbm, 1077, rfl⟩
abbrev main_v540 : Ref sig .tc := ⟨.hbm, 1078, rfl⟩
abbrev main_c_212 : Ref sig .tc := ⟨.hbm, 1079, rfl⟩
abbrev main_v541 : Ref sig .tc := ⟨.hbm, 1080, rfl⟩
abbrev main_v542 : Ref sig .tc := ⟨.hbm, 1081, rfl⟩
abbrev main_v543 : Ref sig .tc := ⟨.hbm, 1082, rfl⟩
abbrev main_v544 : Ref sig .tc := ⟨.hbm, 1083, rfl⟩
abbrev main_v545 : Ref sig .tc := ⟨.hbm, 1084, rfl⟩
abbrev main_c_213 : Ref sig .tc := ⟨.hbm, 1085, rfl⟩
abbrev main_v546 : Ref sig .tc := ⟨.hbm, 1086, rfl⟩
abbrev main_v547 : Ref sig .tc := ⟨.hbm, 1087, rfl⟩
abbrev main_v548 : Ref sig .tc := ⟨.hbm, 1088, rfl⟩
abbrev main_c_214 : Ref sig .tc := ⟨.hbm, 1089, rfl⟩
abbrev main_v549 : Ref sig .tc := ⟨.hbm, 1090, rfl⟩
abbrev main_v550 : Ref sig .tc := ⟨.hbm, 1091, rfl⟩
abbrev main_v551 : Ref sig .tc := ⟨.hbm, 1092, rfl⟩
abbrev main_c_215 : Ref sig .tc := ⟨.hbm, 1093, rfl⟩
abbrev main_call64_v0 : Ref sig .tc := ⟨.hbm, 1094, rfl⟩
abbrev main_call64_v1 : Ref sig .tc := ⟨.hbm, 1095, rfl⟩
abbrev main_v552 : Ref sig .tc := ⟨.hbm, 1096, rfl⟩
abbrev main_c_216 : Ref sig .tc := ⟨.hbm, 1097, rfl⟩
abbrev main_call65_v0 : Ref sig .tc := ⟨.hbm, 1098, rfl⟩
abbrev main_call65_v1 : Ref sig .tc := ⟨.hbm, 1099, rfl⟩
abbrev main_v553 : Ref sig .tc := ⟨.hbm, 1100, rfl⟩
abbrev main_cst_217 : Ref sig .tc := ⟨.hbm, 1101, rfl⟩
abbrev main_v554 : Ref sig .tc := ⟨.hbm, 1102, rfl⟩
abbrev main_v555 : Ref sig .tc := ⟨.hbm, 1103, rfl⟩
abbrev main_cst_218 : Ref sig .tc := ⟨.hbm, 1104, rfl⟩
abbrev main_call66_v0 : Ref sig .tc := ⟨.hbm, 1105, rfl⟩
abbrev main_call66_v1 : Ref sig .tc := ⟨.hbm, 1106, rfl⟩
abbrev main_call66_v2 : Ref sig .tc := ⟨.hbm, 1107, rfl⟩
abbrev main_v556 : Ref sig .tc := ⟨.hbm, 1108, rfl⟩
abbrev main_c_219 : Ref sig .tc := ⟨.hbm, 1109, rfl⟩
abbrev main_v557 : Ref sig .tc := ⟨.hbm, 1110, rfl⟩
abbrev main_v558 : Ref sig .tc := ⟨.hbm, 1111, rfl⟩
abbrev main_c_220 : Ref sig .tc := ⟨.hbm, 1112, rfl⟩
abbrev main_v559 : Ref sig .tc := ⟨.hbm, 1113, rfl⟩
abbrev main_v560 : Ref sig .tc := ⟨.hbm, 1114, rfl⟩
abbrev main_v561 : Ref sig .tc := ⟨.hbm, 1115, rfl⟩
abbrev main_c_221 : Ref sig .tc := ⟨.hbm, 1116, rfl⟩
abbrev main_v562 : Ref sig .tc := ⟨.hbm, 1117, rfl⟩
abbrev main_v563 : Ref sig .tc := ⟨.hbm, 1118, rfl⟩
abbrev main_c_222 : Ref sig .tc := ⟨.hbm, 1119, rfl⟩
abbrev main_v564 : Ref sig .tc := ⟨.hbm, 1120, rfl⟩
abbrev main_v565 : Ref sig .tc := ⟨.hbm, 1121, rfl⟩
abbrev main_v566 : Ref sig .tc := ⟨.hbm, 1122, rfl⟩
abbrev main_v567 : Ref sig .tc := ⟨.hbm, 1123, rfl⟩
abbrev main_v568 : Ref sig .tc := ⟨.hbm, 1124, rfl⟩
abbrev main_v569 : Ref sig .tc := ⟨.hbm, 1125, rfl⟩
abbrev main_v570 : Ref sig .tc := ⟨.hbm, 1126, rfl⟩
abbrev main_v571 : Ref sig .tc := ⟨.hbm, 1127, rfl⟩
abbrev main_v572 : Ref sig .tc := ⟨.hbm, 1128, rfl⟩
abbrev main_c_223 : Ref sig .tc := ⟨.hbm, 1129, rfl⟩
abbrev main_v573 : Ref sig .tc := ⟨.hbm, 1130, rfl⟩
abbrev main_v574 : Ref sig .tc := ⟨.hbm, 1131, rfl⟩
abbrev main_v575 : Ref sig .tc := ⟨.hbm, 1132, rfl⟩
abbrev main_v576 : Ref sig .tc := ⟨.hbm, 1133, rfl⟩
abbrev main_c_224 : Ref sig .tc := ⟨.hbm, 1134, rfl⟩
abbrev main_v577 : Ref sig .tc := ⟨.hbm, 1135, rfl⟩
abbrev main_c_225 : Ref sig .tc := ⟨.hbm, 1136, rfl⟩
abbrev main_v578 : Ref sig .tc := ⟨.hbm, 1137, rfl⟩
abbrev main_v579 : Ref sig .tc := ⟨.hbm, 1138, rfl⟩
abbrev main_v580 : Ref sig .tc := ⟨.hbm, 1139, rfl⟩
abbrev main_c_226 : Ref sig .tc := ⟨.hbm, 1140, rfl⟩
abbrev main_call67_v0 : Ref sig .tc := ⟨.hbm, 1141, rfl⟩
abbrev main_call67_v1 : Ref sig .tc := ⟨.hbm, 1142, rfl⟩
abbrev main_v581 : Ref sig .tc := ⟨.hbm, 1143, rfl⟩
abbrev main_c_227 : Ref sig .tc := ⟨.hbm, 1144, rfl⟩
abbrev main_v582 : Ref sig .tc := ⟨.hbm, 1145, rfl⟩
abbrev main_v583 : Ref sig .tc := ⟨.hbm, 1146, rfl⟩
abbrev main_v584 : Ref sig .tc := ⟨.hbm, 1147, rfl⟩
abbrev main_c_228 : Ref sig .tc := ⟨.hbm, 1148, rfl⟩
abbrev main_call68_v0 : Ref sig .tc := ⟨.hbm, 1149, rfl⟩
abbrev main_call68_v1 : Ref sig .tc := ⟨.hbm, 1150, rfl⟩
abbrev main_v585 : Ref sig .tc := ⟨.hbm, 1151, rfl⟩
abbrev main_c_229 : Ref sig .tc := ⟨.hbm, 1152, rfl⟩
abbrev main_v586 : Ref sig .tc := ⟨.hbm, 1153, rfl⟩
abbrev main_v587 : Ref sig .tc := ⟨.hbm, 1154, rfl⟩
abbrev main_c_230 : Ref sig .tc := ⟨.hbm, 1155, rfl⟩
abbrev main_v588 : Ref sig .tc := ⟨.hbm, 1156, rfl⟩
abbrev main_v589 : Ref sig .tc := ⟨.hbm, 1157, rfl⟩
abbrev main_v590 : Ref sig .tc := ⟨.hbm, 1158, rfl⟩
abbrev main_v591 : Ref sig .tc := ⟨.hbm, 1159, rfl⟩
abbrev main_v592 : Ref sig .tc := ⟨.hbm, 1160, rfl⟩
abbrev main_v593 : Ref sig .tc := ⟨.hbm, 1161, rfl⟩
abbrev main_c_231 : Ref sig .tc := ⟨.hbm, 1162, rfl⟩
abbrev main_v594 : Ref sig .tc := ⟨.hbm, 1163, rfl⟩
abbrev main_v595 : Ref sig .tc := ⟨.hbm, 1164, rfl⟩
abbrev main_c_232 : Ref sig .tc := ⟨.hbm, 1165, rfl⟩
abbrev main_call69_v0 : Ref sig .tc := ⟨.hbm, 1166, rfl⟩
abbrev main_call69_v1 : Ref sig .tc := ⟨.hbm, 1167, rfl⟩
abbrev main_call69_v2 : Ref sig .tc := ⟨.hbm, 1168, rfl⟩
abbrev main_call69_v3 : Ref sig .tc := ⟨.hbm, 1169, rfl⟩
abbrev main_call69_v4 : Ref sig .tc := ⟨.hbm, 1170, rfl⟩
abbrev main_call69_v5 : Ref sig .tc := ⟨.hbm, 1171, rfl⟩
abbrev main_call69_v6 : Ref sig .tc := ⟨.hbm, 1172, rfl⟩
abbrev main_call69_v7 : Ref sig .tc := ⟨.hbm, 1173, rfl⟩
abbrev main_call69_v8 : Ref sig .tc := ⟨.hbm, 1174, rfl⟩
abbrev main_call69_c : Ref sig .tc := ⟨.hbm, 1175, rfl⟩
abbrev main_call69_v9 : Ref sig .tc := ⟨.hbm, 1176, rfl⟩
abbrev main_call69_v10 : Ref sig .tc := ⟨.hbm, 1177, rfl⟩
abbrev main_call69_v11 : Ref sig .tc := ⟨.hbm, 1178, rfl⟩
abbrev main_call69_c_0 : Ref sig .tc := ⟨.hbm, 1179, rfl⟩
abbrev main_call69_v12 : Ref sig .tc := ⟨.hbm, 1180, rfl⟩
abbrev main_call69_v13 : Ref sig .tc := ⟨.hbm, 1181, rfl⟩
abbrev main_v596 : Ref sig .tc := ⟨.hbm, 1182, rfl⟩
abbrev main_c_233 : Ref sig .tc := ⟨.hbm, 1183, rfl⟩
abbrev main_call70_v0 : Ref sig .tc := ⟨.hbm, 1184, rfl⟩
abbrev main_call70_v1 : Ref sig .tc := ⟨.hbm, 1185, rfl⟩
abbrev main_v597 : Ref sig .tc := ⟨.hbm, 1186, rfl⟩
abbrev main_c_234 : Ref sig .tc := ⟨.hbm, 1187, rfl⟩
abbrev main_v598 : Ref sig .tc := ⟨.hbm, 1188, rfl⟩
abbrev main_v599 : Ref sig .tc := ⟨.hbm, 1189, rfl⟩
abbrev main_c_235 : Ref sig .tc := ⟨.hbm, 1190, rfl⟩
abbrev main_call71_v0 : Ref sig .tc := ⟨.hbm, 1191, rfl⟩
abbrev main_call71_v1 : Ref sig .tc := ⟨.hbm, 1192, rfl⟩
abbrev main_call71_v2 : Ref sig .tc := ⟨.hbm, 1193, rfl⟩
abbrev main_call71_v3 : Ref sig .tc := ⟨.hbm, 1194, rfl⟩
abbrev main_call71_v4 : Ref sig .tc := ⟨.hbm, 1195, rfl⟩
abbrev main_call71_v5 : Ref sig .tc := ⟨.hbm, 1196, rfl⟩
abbrev main_call71_v6 : Ref sig .tc := ⟨.hbm, 1197, rfl⟩
abbrev main_call71_v7 : Ref sig .tc := ⟨.hbm, 1198, rfl⟩
abbrev main_call71_v8 : Ref sig .tc := ⟨.hbm, 1199, rfl⟩
abbrev main_call71_c : Ref sig .tc := ⟨.hbm, 1200, rfl⟩
abbrev main_call71_v9 : Ref sig .tc := ⟨.hbm, 1201, rfl⟩
abbrev main_call71_v10 : Ref sig .tc := ⟨.hbm, 1202, rfl⟩
abbrev main_call71_v11 : Ref sig .tc := ⟨.hbm, 1203, rfl⟩
abbrev main_call71_c_0 : Ref sig .tc := ⟨.hbm, 1204, rfl⟩
abbrev main_call71_v12 : Ref sig .tc := ⟨.hbm, 1205, rfl⟩
abbrev main_call71_v13 : Ref sig .tc := ⟨.hbm, 1206, rfl⟩
abbrev main_v600 : Ref sig .tc := ⟨.hbm, 1207, rfl⟩
abbrev main_c_236 : Ref sig .tc := ⟨.hbm, 1208, rfl⟩
abbrev main_call72_v0 : Ref sig .tc := ⟨.hbm, 1209, rfl⟩
abbrev main_call72_c : Ref sig .tc := ⟨.hbm, 1210, rfl⟩
abbrev main_call72_v1 : Ref sig .tc := ⟨.hbm, 1211, rfl⟩
abbrev main_call72_c_0 : Ref sig .tc := ⟨.hbm, 1212, rfl⟩
abbrev main_call72_v2 : Ref sig .tc := ⟨.hbm, 1213, rfl⟩
abbrev main_call72_v3 : Ref sig .tc := ⟨.hbm, 1214, rfl⟩
abbrev main_call72_v4 : Ref sig .tc := ⟨.hbm, 1215, rfl⟩
abbrev main_call72_c_1 : Ref sig .tc := ⟨.hbm, 1216, rfl⟩
abbrev main_call72_v5 : Ref sig .tc := ⟨.hbm, 1217, rfl⟩
abbrev main_call72_v6 : Ref sig .tc := ⟨.hbm, 1218, rfl⟩
abbrev main_call72_c_2 : Ref sig .tc := ⟨.hbm, 1219, rfl⟩
abbrev main_call72_v7 : Ref sig .tc := ⟨.hbm, 1220, rfl⟩
abbrev main_call72_v8 : Ref sig .tc := ⟨.hbm, 1221, rfl⟩
abbrev main_call72_c_3 : Ref sig .tc := ⟨.hbm, 1222, rfl⟩
abbrev main_call72_v9 : Ref sig .tc := ⟨.hbm, 1223, rfl⟩
abbrev main_call72_v10 : Ref sig .tc := ⟨.hbm, 1224, rfl⟩
abbrev main_call72_v11 : Ref sig .tc := ⟨.hbm, 1225, rfl⟩
abbrev main_call72_v12 : Ref sig .tc := ⟨.hbm, 1226, rfl⟩
abbrev main_call72_v13 : Ref sig .tc := ⟨.hbm, 1227, rfl⟩
abbrev main_call72_v14 : Ref sig .tc := ⟨.hbm, 1228, rfl⟩
abbrev main_v601 : Ref sig .tc := ⟨.hbm, 1229, rfl⟩
abbrev main_c_237 : Ref sig .tc := ⟨.hbm, 1230, rfl⟩
abbrev main_call73_v0 : Ref sig .tc := ⟨.hbm, 1231, rfl⟩
abbrev main_call73_v1 : Ref sig .tc := ⟨.hbm, 1232, rfl⟩
abbrev main_v602 : Ref sig .tc := ⟨.hbm, 1233, rfl⟩
abbrev main_c_238 : Ref sig .tc := ⟨.hbm, 1234, rfl⟩
abbrev main_v603 : Ref sig .tc := ⟨.hbm, 1235, rfl⟩
abbrev main_v604 : Ref sig .tc := ⟨.hbm, 1236, rfl⟩
abbrev main_c_239 : Ref sig .tc := ⟨.hbm, 1237, rfl⟩
abbrev main_call74_v0 : Ref sig .tc := ⟨.hbm, 1238, rfl⟩
abbrev main_call74_c : Ref sig .tc := ⟨.hbm, 1239, rfl⟩
abbrev main_call74_v1 : Ref sig .tc := ⟨.hbm, 1240, rfl⟩
abbrev main_call74_c_0 : Ref sig .tc := ⟨.hbm, 1241, rfl⟩
abbrev main_call74_v2 : Ref sig .tc := ⟨.hbm, 1242, rfl⟩
abbrev main_call74_v3 : Ref sig .tc := ⟨.hbm, 1243, rfl⟩
abbrev main_call74_v4 : Ref sig .tc := ⟨.hbm, 1244, rfl⟩
abbrev main_call74_c_1 : Ref sig .tc := ⟨.hbm, 1245, rfl⟩
abbrev main_call74_v5 : Ref sig .tc := ⟨.hbm, 1246, rfl⟩
abbrev main_call74_v6 : Ref sig .tc := ⟨.hbm, 1247, rfl⟩
abbrev main_call74_c_2 : Ref sig .tc := ⟨.hbm, 1248, rfl⟩
abbrev main_call74_v7 : Ref sig .tc := ⟨.hbm, 1249, rfl⟩
abbrev main_call74_v8 : Ref sig .tc := ⟨.hbm, 1250, rfl⟩
abbrev main_call74_c_3 : Ref sig .tc := ⟨.hbm, 1251, rfl⟩
abbrev main_call74_v9 : Ref sig .tc := ⟨.hbm, 1252, rfl⟩
abbrev main_call74_v10 : Ref sig .tc := ⟨.hbm, 1253, rfl⟩
abbrev main_call74_v11 : Ref sig .tc := ⟨.hbm, 1254, rfl⟩
abbrev main_call74_v12 : Ref sig .tc := ⟨.hbm, 1255, rfl⟩
abbrev main_call74_v13 : Ref sig .tc := ⟨.hbm, 1256, rfl⟩
abbrev main_call74_v14 : Ref sig .tc := ⟨.hbm, 1257, rfl⟩
abbrev main_v605 : Ref sig .tc := ⟨.hbm, 1258, rfl⟩
abbrev main_c_240 : Ref sig .tc := ⟨.hbm, 1259, rfl⟩
abbrev main_call75_v0 : Ref sig .tc := ⟨.hbm, 1260, rfl⟩
abbrev main_call75_v1 : Ref sig .tc := ⟨.hbm, 1261, rfl⟩
abbrev main_v606 : Ref sig .tc := ⟨.hbm, 1262, rfl⟩
abbrev main_v607 : Ref sig .tc := ⟨.hbm, 1263, rfl⟩
abbrev main_v608 : Ref sig .tc := ⟨.hbm, 1264, rfl⟩
abbrev main_v609 : Ref sig .tc := ⟨.hbm, 1265, rfl⟩
abbrev main_v610 : Ref sig .tc := ⟨.hbm, 1266, rfl⟩
abbrev main_c_241 : Ref sig .tc := ⟨.hbm, 1267, rfl⟩
abbrev main_v611 : Ref sig .tc := ⟨.hbm, 1268, rfl⟩
abbrev main_v612 : Ref sig .tc := ⟨.hbm, 1269, rfl⟩
abbrev main_v613 : Ref sig .tc := ⟨.hbm, 1270, rfl⟩
abbrev main_v614 : Ref sig .tc := ⟨.hbm, 1271, rfl⟩
abbrev main_v615 : Ref sig .tc := ⟨.hbm, 1272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x300000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x300000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S4x300000x5_S1x300000x5_0_0_0 : S4x300000x5.Slices ![0, 0, 0] S1x300000x5
  shapeCasts_S1x300000x5_S300000x5 : S1x300000x5.ShapeCasts S300000x5
  bcast_S_S1 : S_.BroadcastsInDim S1 (![] : Fin 0 → Fin S1.rank)
  concatenates_S1_S1_S2_d0 : Shape.Concatenates [S1, S1] S2 0
  slices_S4x300000x5_S1x300000x5_1_0_0 : S4x300000x5.Slices ![1, 0, 0] S1x300000x5
  slices_S4x300000x5_S1x300000x5_2_0_0 : S4x300000x5.Slices ![2, 0, 0] S1x300000x5
  slices_S4x300000x5_S1x300000x5_3_0_0 : S4x300000x5.Slices ![3, 0, 0] S1x300000x5
  bcast_S300000x5_S1x300000x5_1_2 : S300000x5.BroadcastsInDim S1x300000x5 (![1, 2] : Fin 2 → Fin S1x300000x5.rank)
  concatenates_S1x300000x5_S1x300000x5_S1x300000x5_S1x300000x5_S4x300000x5_d0 : Shape.Concatenates [S1x300000x5, S1x300000x5, S1x300000x5, S1x300000x5] S4x300000x5 0
  slices_S4x300000x5_S4x300000x3_0_0_0 : S4x300000x5.Slices ![0, 0, 0] S4x300000x3
  transposes_S4x300000x3_S4x3x300000_0_2_1 : S4x300000x3.Transposes [0, 2, 1] S4x3x300000
  inb_S1x3x300000_S1x3x300000_0_0_0 : ∀ a, (![0, 0, 0] : Fin 3 → Nat) a + S1x3x300000.size a ≤ S1x3x300000.size a
  h_S1x3x300000 : 0 < S1x3x300000.numel
  shapeCasts_S1x3x300000_S3x300000 : S1x3x300000.ShapeCasts S3x300000
  slices_S3x300000_o0_0_S1x300000 : S3x300000.Slices ![0, 0] S1x300000
  slices_S3x300000_o1_0_S1x300000 : S3x300000.Slices ![1, 0] S1x300000
  slices_S3x300000_o2_0_S1x300000 : S3x300000.Slices ![2, 0] S1x300000
  inb_S1x1x300000_S1x1x300000_0_0_0 : ∀ a, (![0, 0, 0] : Fin 3 → Nat) a + S1x1x300000.size a ≤ S1x1x300000.size a
  h_S1x1x300000 : 0 < S1x1x300000.numel
  shapeCasts_S1x1x300000_S1x300000 : S1x1x300000.ShapeCasts S1x300000
  shapeCasts_S1x300000_S1x1x300000 : S1x300000.ShapeCasts S1x1x300000
  shapeCasts_S4x1x300000_S4x300000 : S4x1x300000.ShapeCasts S4x300000
  slices_S4x300000_S1x300000_0_0 : S4x300000.Slices ![0, 0] S1x300000
  shapeCasts_S1x300000_S300000 : S1x300000.ShapeCasts S300000
  bcast_S_S300000 : S_.BroadcastsInDim S300000 (![] : Fin 0 → Fin S300000.rank)
  bcast_S_S262145 : S_.BroadcastsInDim S262145 (![] : Fin 0 → Fin S262145.rank)
  bcast_S300000_S300000x1_0 : S300000.BroadcastsInDim S300000x1 (![0] : Fin 1 → Fin S300000x1.rank)
  natLt_1_32 : 1 < 32
  bcast_S_S_ : S_.BroadcastsInDim S_ (![] : Fin 0 → Fin S_.rank)
  reduceWindows_S300000_S300000_w300000s1p299999_0 : S300000.ReduceWindows (![300000] : Fin 1 → Nat) ![1] ![299999] ![0] S300000
  h_S_ : 0 < S_.numel
  slices_S300000_S299999_1 : S300000.Slices ![1] S299999
  slices_S300000_S299999_0 : S300000.Slices ![0] S299999
  concatenates_S1_S299999_S300000_d0 : Shape.Concatenates [S1, S299999] S300000 0
  bcast_S_S30001x20x5 : S_.BroadcastsInDim S30001x20x5 (![] : Fin 0 → Fin S30001x20x5.rank)
  bcast_S300000x1_S300000x5_0_1 : S300000x1.BroadcastsInDim S300000x5 (![0, 1] : Fin 2 → Fin S300000x5.rank)
  bcast_S_S300000x5 : S_.BroadcastsInDim S300000x5 (![] : Fin 0 → Fin S300000x5.rank)
  concatenates_S300000x1_S300000x1_S300000x2_d1 : Shape.Concatenates [S300000x1, S300000x1] S300000x2 1
  slices_S30001x20x5_S30000x20x5_0_0_0 : S30001x20x5.Slices ![0, 0, 0] S30000x20x5
  bcast_S_S30001 : S_.BroadcastsInDim S30001 (![] : Fin 0 → Fin S30001.rank)
  slices_S30001_S30000_0 : S30001.Slices ![0] S30000
  bcast_S_S30000 : S_.BroadcastsInDim S30000 (![] : Fin 0 → Fin S30000.rank)
  bcast_S30000_S30000x1_0 : S30000.BroadcastsInDim S30000x1 (![0] : Fin 1 → Fin S30000x1.rank)
  concatenates_S30000x1_S30000x1_S30000x1_S30000x3_d1 : Shape.Concatenates [S30000x1, S30000x1, S30000x1] S30000x3 1
  bcast_S_S30000x1 : S_.BroadcastsInDim S30000x1 (![] : Fin 0 → Fin S30000x1.rank)
  concatenates_S30000x1_S30000x3_S30000x4_d1 : Shape.Concatenates [S30000x1, S30000x3] S30000x4 1
  slices_S4x300000_S1x300000_1_0 : S4x300000.Slices ![1, 0] S1x300000
  slices_S4x300000_S1x300000_2_0 : S4x300000.Slices ![2, 0] S1x300000
  slices_S4x300000_S1x300000_3_0 : S4x300000.Slices ![3, 0] S1x300000
  concatenates_S30000x20x5_S30000x20x5_S30000x20x5_S30000x20x5_S120000x20x5_d0 : Shape.Concatenates [S30000x20x5, S30000x20x5, S30000x20x5, S30000x20x5] S120000x20x5 0
  concatenates_S30000_S30000_S30000_S30000_S120000_d0 : Shape.Concatenates [S30000, S30000, S30000, S30000] S120000 0
  concatenates_S30000x4_S30000x4_S30000x4_S30000x4_S120000x4_d0 : Shape.Concatenates [S30000x4, S30000x4, S30000x4, S30000x4] S120000x4 0
  scatter_S300000x5_S2_S__n_01_01_0_wf : ScatterDims.WF S300000x5 S2 S_ [] [0, 1] [0, 1] 0
  scatter_S262145_S300000x1_S300000_n_0_0_1_wf : ScatterDims.WF S262145 S300000x1 S300000 [] [0] [0] 1
  gather_S262145_S300000x1_S300000_n_0_n_n_0_1_1_wf : GatherDims.WF S262145 S300000x1 S300000 [] [0] [] [0] [] 1 ![1]
  gather_S300000_S300000x1_S300000_n_0_n_n_0_1_1_wf : GatherDims.WF S300000 S300000x1 S300000 [] [0] [] [0] [] 1 ![1]
  scatter_S300000_S300000x1_S300000_n_0_0_1_wf : ScatterDims.WF S300000 S300000x1 S300000 [] [0] [0] 1
  scatter_S30001x20x5_S300000x2_S300000x5_1_01_01_1_wf : ScatterDims.WF S30001x20x5 S300000x2 S300000x5 [1] [0, 1] [0, 1] 1
  scatter_S30001_S300000x1_S300000_n_0_0_1_wf : ScatterDims.WF S30001 S300000x1 S300000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x300000.size a ≤ S4x3x300000.size a
  hwx0_0 : ∀ i : grid0.Coords, EltTy.bits .f32 = 32 ∨ (Rect.block (s := S4x3x300000) S1x3x300000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x300000.size a ≤ S4x1x300000.size a
  hwx0_1 : ∀ i : grid0.Coords, EltTy.bits .i32 = 32 ∨ (Rect.block (s := S4x1x300000) S1x1x300000.size (cc0_transform_1 i) (hinb0_1 i)).WholeWords (EltTy.packing .i32)

variable [Facts₀]

def scatter_S300000x5_S2_S__n_01_01_0 : ScatterDims S300000x5 S2 S_ where
  updateWindowDims := []
  insertedWindowDims := [0, 1]
  scatterDimsToOperandDims := [0, 1]
  indexVectorDim := 0
  wf := scatter_S300000x5_S2_S__n_01_01_0_wf
def scatter_S262145_S300000x1_S300000_n_0_0_1 : ScatterDims S262145 S300000x1 S300000 where
  updateWindowDims := []
  insertedWindowDims := [0]
  scatterDimsToOperandDims := [0]
  indexVectorDim := 1
  wf := scatter_S262145_S300000x1_S300000_n_0_0_1_wf
def gather_S262145_S300000x1_S300000_n_0_n_n_0_1_1 : GatherDims S262145 S300000x1 S300000 where
  offsetDims := []
  collapsedSliceDims := [0]
  operandBatchingDims := []
  startIndicesBatchingDims := []
  startIndexMap := [0]
  indexVectorDim := 1
  sliceSizes := ![1]
  wf := gather_S262145_S300000x1_S300000_n_0_n_n_0_1_1_wf
def comparator_i32_i32_d0 : BitVec 32 × BitVec 32 → BitVec 32 × BitVec 32 → BitVec 1 :=
  fun l r =>
    let v2 := IntOp.cmpi .slt l.1 r.1
    v2
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf
def scatter_S300000_S300000x1_S300000_n_0_0_1 : ScatterDims S300000 S300000x1 S300000 where
  updateWindowDims := []
  insertedWindowDims := [0]
  scatterDimsToOperandDims := [0]
  indexVectorDim := 1
  wf := scatter_S300000_S300000x1_S300000_n_0_0_1_wf
def scatter_S30001x20x5_S300000x2_S300000x5_1_01_01_1 : ScatterDims S30001x20x5 S300000x2 S300000x5 where
  updateWindowDims := [1]
  insertedWindowDims := [0, 1]
  scatterDimsToOperandDims := [0, 1]
  indexVectorDim := 1
  wf := scatter_S30001x20x5_S300000x2_S300000x5_1_01_01_1_wf
def scatter_S30001_S300000x1_S300000_n_0_0_1 : ScatterDims S30001 S300000x1 S300000 where
  updateWindowDims := []
  insertedWindowDims := [0]
  scatterDimsToOperandDims := [0]
  indexVectorDim := 1
  wf := scatter_S30001_S300000x1_S300000_n_0_0_1_wf

abbrev win0_0 : Pipeline.Window sig grid0 :=
  Pipeline.Window.ofSpec (Memref.whole main_v62) S1x3x300000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S1x1x300000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x300000x5 : Shape := ⟨3, ![4, 300000, 5]⟩
abbrev S3 : Shape := ⟨1, ![3]⟩
abbrev S1x300000x5 : Shape := ⟨3, ![1, 300000, 5]⟩
abbrev S300000x5 : Shape := ⟨2, ![300000, 5]⟩
abbrev S_ : Shape := ⟨0, ![]⟩
abbrev S1 : Shape := ⟨1, ![1]⟩
abbrev S2 : Shape := ⟨1, ![2]⟩
abbrev S300000x3 : Shape := ⟨2, ![300000, 3]⟩
abbrev S1x3 : Shape := ⟨2, ![1, 3]⟩
abbrev S300000 : Shape := ⟨1, ![300000]⟩
abbrev S300000x1 : Shape := ⟨2, ![300000, 1]⟩
abbrev S262145 : Shape := ⟨1, ![262145]⟩
abbrev S299999 : Shape := ⟨1, ![299999]⟩
abbrev S30001x20x5 : Shape := ⟨3, ![30001, 20, 5]⟩
abbrev S300000x2 : Shape := ⟨2, ![300000, 2]⟩
abbrev S30000x20x5 : Shape := ⟨3, ![30000, 20, 5]⟩
abbrev S30001 : Shape := ⟨1, ![30001]⟩
abbrev S30000 : Shape := ⟨1, ![30000]⟩
abbrev S30000x1 : Shape := ⟨2, ![30000, 1]⟩
abbrev S30000x3 : Shape := ⟨2, ![30000, 3]⟩
abbrev S30000x4 : Shape := ⟨2, ![30000, 4]⟩
abbrev S120000x20x5 : Shape := ⟨3, ![120000, 20, 5]⟩
abbrev S120000 : Shape := ⟨1, ![120000]⟩
abbrev S120000x4 : Shape := ⟨2, ![120000, 4]⟩

abbrev nBuf : Space → Nat
  | .hbm => 1391
  | .vmem => 0
  | .smem => 0
  | _ => 0

abbrev hbmTy0_0 (i : Nat) : BufTy := match i % 128 with
  | 0 => ⟨S4x300000x5, .f32⟩
  | 1 => ⟨S3, .f32⟩
  | 2 => ⟨S3, .f32⟩
  | 3 => ⟨S3, .i32⟩
  | 4 => ⟨S1x300000x5, .f32⟩
  | 5 => ⟨S300000x5, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S300000x5, .f32⟩
  | 13 => ⟨S_, .i32⟩
  | 14 => ⟨S1, .i32⟩
  | 15 => ⟨S_, .i32⟩
  | 16 => ⟨S1, .i32⟩
  | 17 => ⟨S2, .i32⟩
  | 18 => ⟨S_, .f32⟩
  | 19 => ⟨S300000x5, .f32⟩
  | 20 => ⟨S_, .i32⟩
  | 21 => ⟨S1, .i32⟩
  | 22 => ⟨S_, .i32⟩
  | 23 => ⟨S1, .i32⟩
  | 24 => ⟨S2, .i32⟩
  | 25 => ⟨S_, .f32⟩
  | 26 => ⟨S300000x5, .f32⟩
  | 27 => ⟨S300000x3, .f32⟩
  | 28 => ⟨S1x3, .f32⟩
  | 29 => ⟨S300000x3, .f32⟩
  | 30 => ⟨S300000x3, .f32⟩
  | 31 => ⟨S1x3, .f32⟩
  | 32 => ⟨S300000x3, .f32⟩
  | 33 => ⟨S300000x3, .f32⟩
  | 34 => ⟨S300000x3, .f32⟩
  | 35 => ⟨S300000x3, .i32⟩
  | 36 => ⟨S_, .i32⟩
  | 37 => ⟨S300000x3, .i32⟩
  | 38 => ⟨S300000x3, .i1⟩
  | 39 => ⟨S1x3, .i32⟩
  | 40 => ⟨S300000x3, .i32⟩
  | 41 => ⟨S300000x3, .i1⟩
  | 42 => ⟨S300000x3, .i1⟩
  | 43 => ⟨S_, .i1⟩
  | 44 => ⟨S300000, .i1⟩
  | 45 => ⟨S300000x1, .i32⟩
  | 46 => ⟨S300000, .i32⟩
  | 47 => ⟨S_, .i32⟩
  | 48 => ⟨S300000, .i32⟩
  | 49 => ⟨S300000, .i32⟩
  | 50 => ⟨S300000x1, .i32⟩
  | 51 => ⟨S300000, .i32⟩
  | 52 => ⟨S300000, .i32⟩
  | 53 => ⟨S_, .i32⟩
  | 54 => ⟨S300000, .i32⟩
  | 55 => ⟨S300000, .i32⟩
  | 56 => ⟨S300000x1, .i32⟩
  | 57 => ⟨S300000, .i32⟩
  | 58 => ⟨S300000, .i32⟩
  | 59 => ⟨S_, .i32⟩
  | 60 => ⟨S_, .i32⟩
  | 61 => ⟨S300000, .i32⟩
  | 62 => ⟨S300000, .i32⟩
  | 63 => ⟨S300000, .i32⟩
  | 64 => ⟨S_, .i32⟩
  | 65 => ⟨S262145, .i32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S262145, .i32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S300000x1, .i32⟩
  | 83 => ⟨S300000, .i32⟩
  | 84 => ⟨S300000, .i1⟩
  | 85 => ⟨S300000, .i1⟩
  | 86 => ⟨S300000, .i32⟩
  | 87 => ⟨S_, .i32⟩
  | 88 => ⟨S_, .i32⟩
  | 89 => ⟨S300000, .i32⟩
  | 90 => ⟨S_, .i32⟩
  | 91 => ⟨S300000, .i32⟩
  | 92 => ⟨S300000, .i32⟩
  | 93 => ⟨S_, .i32⟩
  | 94 => ⟨S262145, .i32⟩
  | 95 => ⟨S_, .i32⟩
  | 96 => ⟨S_, .i32⟩
  | 97 => ⟨S300000, .i32⟩
  | 98 => ⟨S300000, .i32⟩
  | 99 => ⟨S_, .i32⟩
  | 100 => ⟨S300000, .i32⟩
  | 101 => ⟨S300000, .i32⟩
  | 102 => ⟨S_, .i32⟩
  | 103 => ⟨S_, .i32⟩
  | 104 => ⟨S300000, .i32⟩
  | 105 => ⟨S300000, .i32⟩
  | 106 => ⟨S_, .i32⟩
  | 107 => ⟨S300000, .i32⟩
  | 108 => ⟨S300000, .i1⟩
  | 109 => ⟨S_, .i32⟩
  | 110 => ⟨S300000, .i32⟩
  | 111 => ⟨S300000, .i32⟩
  | 112 => ⟨S300000, .i32⟩
  | 113 => ⟨S300000x1, .i32⟩
  | 114 => ⟨S262145, .i32⟩
  | 115 => ⟨S_, .i32⟩
  | 116 => ⟨S300000, .i32⟩
  | 117 => ⟨S300000, .i1⟩
  | 118 => ⟨S_, .i32⟩
  | 119 => ⟨S300000, .i32⟩
  | 120 => ⟨S300000, .i32⟩
  | 121 => ⟨S300000, .i32⟩
  | 122 => ⟨S300000x1, .i32⟩
  | 123 => ⟨S300000, .i32⟩
  | 124 => ⟨S_, .i32⟩
  | 125 => ⟨S_, .i32⟩
  | 126 => ⟨S300000, .i32⟩
  | 127 => ⟨S300000, .i32⟩
  | _ => ⟨S4x300000x5, .f32⟩

abbrev hbmTy0_1 (i : Nat) : BufTy := match i % 128 with
  | 0 => ⟨S300000, .i32⟩
  | 1 => ⟨S300000, .i32⟩
  | 2 => ⟨S300000, .i32⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000, .i32⟩
  | 12 => ⟨S_, .i1⟩
  | 13 => ⟨S1, .i1⟩
  | 14 => ⟨S299999, .i32⟩
  | 15 => ⟨S299999, .i32⟩
  | 16 => ⟨S299999, .i1⟩
  | 17 => ⟨S300000, .i1⟩
  | 18 => ⟨S_, .i32⟩
  | 19 => ⟨S_, .i32⟩
  | 20 => ⟨S300000, .i32⟩
  | 21 => ⟨S300000, .i32⟩
  | 22 => ⟨S_, .i32⟩
  | 23 => ⟨S_, .i32⟩
  | 24 => ⟨S300000, .i32⟩
  | 25 => ⟨S_, .i32⟩
  | 26 => ⟨S300000, .i32⟩
  | 27 => ⟨S300000, .i32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000, .i32⟩
  | 37 => ⟨S_, .i32⟩
  | 38 => ⟨S300000, .i32⟩
  | 39 => ⟨S300000, .i1⟩
  | 40 => ⟨S300000, .i1⟩
  | 41 => ⟨S_, .i32⟩
  | 42 => ⟨S300000, .i32⟩
  | 43 => ⟨S300000, .i1⟩
  | 44 => ⟨S300000, .i1⟩
  | 45 => ⟨S_, .i32⟩
  | 46 => ⟨S_, .i32⟩
  | 47 => ⟨S300000, .i32⟩
  | 48 => ⟨S300000, .i32⟩
  | 49 => ⟨S_, .i32⟩
  | 50 => ⟨S_, .i32⟩
  | 51 => ⟨S300000, .i32⟩
  | 52 => ⟨S300000, .i32⟩
  | 53 => ⟨S_, .f32⟩
  | 54 => ⟨S30001x20x5, .f32⟩
  | 55 => ⟨S300000x1, .i1⟩
  | 56 => ⟨S_, .f32⟩
  | 57 => ⟨S_, .f32⟩
  | 58 => ⟨S300000x5, .i1⟩
  | 59 => ⟨S300000x5, .f32⟩
  | 60 => ⟨S300000x5, .f32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S300000x1, .i32⟩
  | 77 => ⟨S300000x2, .i32⟩
  | 78 => ⟨S30001x20x5, .f32⟩
  | 79 => ⟨S30000x20x5, .f32⟩
  | 80 => ⟨S300000, .i32⟩
  | 81 => ⟨S_, .i32⟩
  | 82 => ⟨S30001, .i32⟩
  | 83 => ⟨S300000x1, .i32⟩
  | 84 => ⟨S30001, .i32⟩
  | 85 => ⟨S30000, .i32⟩
  | 86 => ⟨S_, .i32⟩
  | 87 => ⟨S30001, .i32⟩
  | 88 => ⟨S_, .i32⟩
  | 89 => ⟨S300000, .i32⟩
  | 90 => ⟨S300000, .i1⟩
  | 91 => ⟨S300000, .i1⟩
  | 92 => ⟨S_, .i32⟩
  | 93 => ⟨S_, .i32⟩
  | 94 => ⟨S300000, .i32⟩
  | 95 => ⟨S300000, .i32⟩
  | 96 => ⟨S_, .i32⟩
  | 97 => ⟨S300000, .i32⟩
  | 98 => ⟨S300000, .i1⟩
  | 99 => ⟨S300000, .i1⟩
  | 100 => ⟨S_, .i32⟩
  | 101 => ⟨S_, .i32⟩
  | 102 => ⟨S300000, .i32⟩
  | 103 => ⟨S300000, .i32⟩
  | 104 => ⟨S_, .i32⟩
  | 105 => ⟨S300000, .i32⟩
  | 106 => ⟨S300000, .i1⟩
  | 107 => ⟨S_, .i32⟩
  | 108 => ⟨S300000, .i32⟩
  | 109 => ⟨S300000, .i32⟩
  | 110 => ⟨S300000, .i32⟩
  | 111 => ⟨S300000x1, .i32⟩
  | 112 => ⟨S30001, .i32⟩
  | 113 => ⟨S30000, .i32⟩
  | 114 => ⟨S_, .i32⟩
  | 115 => ⟨S30000, .i32⟩
  | 116 => ⟨S30000, .i1⟩
  | 117 => ⟨S_, .i32⟩
  | 118 => ⟨S_, .i32⟩
  | 119 => ⟨S30000, .i32⟩
  | 120 => ⟨S30000, .i32⟩
  | 121 => ⟨S30000, .i32⟩
  | 122 => ⟨S_, .i32⟩
  | 123 => ⟨S30000, .i32⟩
  | 124 => ⟨S30000, .i1⟩
  | 125 => ⟨S30000, .i32⟩
  | 126 => ⟨S30000, .i32⟩
  | 127 => ⟨S_, .i32⟩
  | _ => ⟨S4x300000x5, .f32⟩

abbrev hbmTy0_2 (i : Nat) : BufTy := match i % 128 with
  | 0 => ⟨S30000, .i32⟩
  | 1 => ⟨S30000, .i1⟩
  | 2 => ⟨S30000, .i1⟩
  | 3 => ⟨S_, .i32⟩
  | 4 => ⟨S30000, .i32⟩
  | 5 => ⟨S30000, .i32⟩
  | 6 => ⟨S30000, .i32⟩
  | 7 => ⟨S_, .i32⟩
  | 8 => ⟨S_, .i32⟩
  | 9 => ⟨S30000, .i32⟩
  | 10 => ⟨S30000, .i32⟩
  | 11 => ⟨S_, .i32⟩
  | 12 => ⟨S30000, .i32⟩
  | 13 => ⟨S30000, .i1⟩
  | 14 => ⟨S_, .i32⟩
  | 15 => ⟨S_, .i32⟩
  | 16 => ⟨S30000, .i32⟩
  | 17 => ⟨S30000, .i32⟩
  | 18 => ⟨S30000, .i32⟩
  | 19 => ⟨S_, .i32⟩
  | 20 => ⟨S30000, .i32⟩
  | 21 => ⟨S30000, .i1⟩
  | 22 => ⟨S30000, .i32⟩
  | 23 => ⟨S30000, .i32⟩
  | 24 => ⟨S_, .i32⟩
  | 25 => ⟨S30000, .i32⟩
  | 26 => ⟨S30000, .i1⟩
  | 27 => ⟨S30000, .i1⟩
  | 28 => ⟨S_, .i32⟩
  | 29 => ⟨S30000, .i32⟩
  | 30 => ⟨S30000, .i32⟩
  | 31 => ⟨S30000, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S30000, .i32⟩
  | 39 => ⟨S30000, .i32⟩
  | 40 => ⟨S_, .i32⟩
  | 41 => ⟨S30000, .i32⟩
  | 42 => ⟨S30000, .i1⟩
  | 43 => ⟨S_, .i32⟩
  | 44 => ⟨S30000, .i32⟩
  | 45 => ⟨S30000, .i1⟩
  | 46 => ⟨S_, .i32⟩
  | 47 => ⟨S_, .i1⟩
  | 48 => ⟨S30000, .i1⟩
  | 49 => ⟨S30000, .i1⟩
  | 50 => ⟨S30000, .i1⟩
  | 51 => ⟨S30000, .i32⟩
  | 52 => ⟨S30000, .i32⟩
  | 53 => ⟨S30000, .i32⟩
  | 54 => ⟨S_, .i32⟩
  | 55 => ⟨S_, .i32⟩
  | 56 => ⟨S30000, .i32⟩
  | 57 => ⟨S30000, .i32⟩
  | 58 => ⟨S_, .i32⟩
  | 59 => ⟨S30000, .i32⟩
  | 60 => ⟨S30000, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S30000, .i32⟩
  | 68 => ⟨S30000, .i32⟩
  | 69 => ⟨S_, .i32⟩
  | 70 => ⟨S30000, .i32⟩
  | 71 => ⟨S30000, .i1⟩
  | 72 => ⟨S_, .i32⟩
  | 73 => ⟨S30000, .i32⟩
  | 74 => ⟨S30000, .i1⟩
  | 75 => ⟨S_, .i32⟩
  | 76 => ⟨S_, .i1⟩
  | 77 => ⟨S30000, .i1⟩
  | 78 => ⟨S30000, .i1⟩
  | 79 => ⟨S30000, .i1⟩
  | 80 => ⟨S30000, .i32⟩
  | 81 => ⟨S30000, .i32⟩
  | 82 => ⟨S30000, .i32⟩
  | 83 => ⟨S_, .i32⟩
  | 84 => ⟨S_, .i32⟩
  | 85 => ⟨S30000, .i32⟩
  | 86 => ⟨S30000, .i32⟩
  | 87 => ⟨S30000x1, .i32⟩
  | 88 => ⟨S30000x1, .i32⟩
  | 89 => ⟨S30000x1, .i32⟩
  | 90 => ⟨S30000x3, .i32⟩
  | 91 => ⟨S_, .i32⟩
  | 92 => ⟨S30000x1, .i32⟩
  | 93 => ⟨S30000x4, .i32⟩
  | 94 => ⟨S1x300000x5, .f32⟩
  | 95 => ⟨S300000x5, .f32⟩
  | 96 => ⟨S_, .i32⟩
  | 97 => ⟨S1, .i32⟩
  | 98 => ⟨S_, .i32⟩
  | 99 => ⟨S1, .i32⟩
  | 100 => ⟨S2, .i32⟩
  | 101 => ⟨S_, .f32⟩
  | 102 => ⟨S300000x5, .f32⟩
  | 103 => ⟨S_, .i32⟩
  | 104 => ⟨S1, .i32⟩
  | 105 => ⟨S_, .i32⟩
  | 106 => ⟨S1, .i32⟩
  | 107 => ⟨S2, .i32⟩
  | 108 => ⟨S_, .f32⟩
  | 109 => ⟨S300000x5, .f32⟩
  | 110 => ⟨S_, .i32⟩
  | 111 => ⟨S1, .i32⟩
  | 112 => ⟨S_, .i32⟩
  | 113 => ⟨S1, .i32⟩
  | 114 => ⟨S2, .i32⟩
  | 115 => ⟨S_, .f32⟩
  | 116 => ⟨S300000x5, .f32⟩
  | 117 => ⟨S300000x3, .f32⟩
  | 118 => ⟨S1x3, .f32⟩
  | 119 => ⟨S300000x3, .f32⟩
  | 120 => ⟨S300000x3, .f32⟩
  | 121 => ⟨S1x3, .f32⟩
  | 122 => ⟨S300000x3, .f32⟩
  | 123 => ⟨S300000x3, .f32⟩
  | 124 => ⟨S300000x3, .f32⟩
  | 125 => ⟨S300000x3, .i32⟩
  | 126 => ⟨S_, .i32⟩
  | 127 => ⟨S300000x3, .i32⟩
  | _ => ⟨S4x300000x5, .f32⟩

abbrev hbmTy0_3 (i : Nat) : BufTy := match i % 128 with
  | 0 => ⟨S300000x3, .i1⟩
  | 1 => ⟨S1x3, .i32⟩
  | 2 => ⟨S300000x3, .i32⟩
  | 3 => ⟨S300000x3, .i1⟩
  | 4 => ⟨S300000x3, .i1⟩
  | 5 => ⟨S_, .i1⟩
  | 6 => ⟨S300000, .i1⟩
  | 7 => ⟨S300000x1, .i32⟩
  | 8 => ⟨S300000, .i32⟩
  | 9 => ⟨S_, .i32⟩
  | 10 => ⟨S300000, .i32⟩
  | 11 => ⟨S300000, .i32⟩
  | 12 => ⟨S300000x1, .i32⟩
  | 13 => ⟨S300000, .i32⟩
  | 14 => ⟨S300000, .i32⟩
  | 15 => ⟨S_, .i32⟩
  | 16 => ⟨S300000, .i32⟩
  | 17 => ⟨S300000, .i32⟩
  | 18 => ⟨S300000x1, .i32⟩
  | 19 => ⟨S300000, .i32⟩
  | 20 => ⟨S300000, .i32⟩
  | 21 => ⟨S_, .i32⟩
  | 22 => ⟨S_, .i32⟩
  | 23 => ⟨S300000, .i32⟩
  | 24 => ⟨S300000, .i32⟩
  | 25 => ⟨S300000, .i32⟩
  | 26 => ⟨S_, .i32⟩
  | 27 => ⟨S262145, .i32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S262145, .i32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000, .i32⟩
  | 46 => ⟨S300000, .i1⟩
  | 47 => ⟨S300000, .i1⟩
  | 48 => ⟨S300000, .i32⟩
  | 49 => ⟨S_, .i32⟩
  | 50 => ⟨S_, .i32⟩
  | 51 => ⟨S300000, .i32⟩
  | 52 => ⟨S_, .i32⟩
  | 53 => ⟨S300000, .i32⟩
  | 54 => ⟨S300000, .i32⟩
  | 55 => ⟨S_, .i32⟩
  | 56 => ⟨S262145, .i32⟩
  | 57 => ⟨S_, .i32⟩
  | 58 => ⟨S_, .i32⟩
  | 59 => ⟨S300000, .i32⟩
  | 60 => ⟨S300000, .i32⟩
  | 61 => ⟨S_, .i32⟩
  | 62 => ⟨S300000, .i32⟩
  | 63 => ⟨S300000, .i32⟩
  | 64 => ⟨S_, .i32⟩
  | 65 => ⟨S_, .i32⟩
  | 66 => ⟨S300000, .i32⟩
  | 67 => ⟨S300000, .i32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S262145, .i32⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S300000, .i32⟩
  | 86 => ⟨S_, .i32⟩
  | 87 => ⟨S_, .i32⟩
  | 88 => ⟨S300000, .i32⟩
  | 89 => ⟨S300000, .i32⟩
  | 90 => ⟨S300000, .i32⟩
  | 91 => ⟨S300000, .i32⟩
  | 92 => ⟨S300000, .i32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000, .i32⟩
  | 102 => ⟨S_, .i1⟩
  | 103 => ⟨S1, .i1⟩
  | 104 => ⟨S299999, .i32⟩
  | 105 => ⟨S299999, .i32⟩
  | 106 => ⟨S299999, .i1⟩
  | 107 => ⟨S300000, .i1⟩
  | 108 => ⟨S_, .i32⟩
  | 109 => ⟨S_, .i32⟩
  | 110 => ⟨S300000, .i32⟩
  | 111 => ⟨S300000, .i32⟩
  | 112 => ⟨S_, .i32⟩
  | 113 => ⟨S_, .i32⟩
  | 114 => ⟨S300000, .i32⟩
  | 115 => ⟨S_, .i32⟩
  | 116 => ⟨S300000, .i32⟩
  | 117 => ⟨S300000, .i32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000, .i32⟩
  | 127 => ⟨S_, .i32⟩
  | _ => ⟨S4x300000x5, .f32⟩

abbrev hbmTy0_4 (i : Nat) : BufTy := match i % 128 with
  | 0 => ⟨S300000, .i32⟩
  | 1 => ⟨S300000, .i1⟩
  | 2 => ⟨S300000, .i1⟩
  | 3 => ⟨S_, .i32⟩
  | 4 => ⟨S300000, .i32⟩
  | 5 => ⟨S300000, .i1⟩
  | 6 => ⟨S300000, .i1⟩
  | 7 => ⟨S_, .i32⟩
  | 8 => ⟨S_, .i32⟩
  | 9 => ⟨S300000, .i32⟩
  | 10 => ⟨S300000, .i32⟩
  | 11 => ⟨S_, .i32⟩
  | 12 => ⟨S_, .i32⟩
  | 13 => ⟨S300000, .i32⟩
  | 14 => ⟨S300000, .i32⟩
  | 15 => ⟨S_, .f32⟩
  | 16 => ⟨S30001x20x5, .f32⟩
  | 17 => ⟨S300000x1, .i1⟩
  | 18 => ⟨S_, .f32⟩
  | 19 => ⟨S_, .f32⟩
  | 20 => ⟨S300000x5, .i1⟩
  | 21 => ⟨S300000x5, .f32⟩
  | 22 => ⟨S300000x5, .f32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S_, .i32⟩
  | 31 => ⟨S300000, .i32⟩
  | 32 => ⟨S300000, .i1⟩
  | 33 => ⟨S_, .i32⟩
  | 34 => ⟨S300000, .i32⟩
  | 35 => ⟨S300000, .i32⟩
  | 36 => ⟨S300000, .i32⟩
  | 37 => ⟨S300000x1, .i32⟩
  | 38 => ⟨S300000x1, .i32⟩
  | 39 => ⟨S300000x2, .i32⟩
  | 40 => ⟨S30001x20x5, .f32⟩
  | 41 => ⟨S30000x20x5, .f32⟩
  | 42 => ⟨S300000, .i32⟩
  | 43 => ⟨S_, .i32⟩
  | 44 => ⟨S30001, .i32⟩
  | 45 => ⟨S300000x1, .i32⟩
  | 46 => ⟨S30001, .i32⟩
  | 47 => ⟨S30000, .i32⟩
  | 48 => ⟨S_, .i32⟩
  | 49 => ⟨S30001, .i32⟩
  | 50 => ⟨S_, .i32⟩
  | 51 => ⟨S300000, .i32⟩
  | 52 => ⟨S300000, .i1⟩
  | 53 => ⟨S300000, .i1⟩
  | 54 => ⟨S_, .i32⟩
  | 55 => ⟨S_, .i32⟩
  | 56 => ⟨S300000, .i32⟩
  | 57 => ⟨S300000, .i32⟩
  | 58 => ⟨S_, .i32⟩
  | 59 => ⟨S300000, .i32⟩
  | 60 => ⟨S300000, .i1⟩
  | 61 => ⟨S300000, .i1⟩
  | 62 => ⟨S_, .i32⟩
  | 63 => ⟨S_, .i32⟩
  | 64 => ⟨S300000, .i32⟩
  | 65 => ⟨S300000, .i32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S30001, .i32⟩
  | 75 => ⟨S30000, .i32⟩
  | 76 => ⟨S_, .i32⟩
  | 77 => ⟨S30000, .i32⟩
  | 78 => ⟨S30000, .i1⟩
  | 79 => ⟨S_, .i32⟩
  | 80 => ⟨S_, .i32⟩
  | 81 => ⟨S30000, .i32⟩
  | 82 => ⟨S30000, .i32⟩
  | 83 => ⟨S30000, .i32⟩
  | 84 => ⟨S_, .i32⟩
  | 85 => ⟨S30000, .i32⟩
  | 86 => ⟨S30000, .i1⟩
  | 87 => ⟨S30000, .i32⟩
  | 88 => ⟨S30000, .i32⟩
  | 89 => ⟨S_, .i32⟩
  | 90 => ⟨S30000, .i32⟩
  | 91 => ⟨S30000, .i1⟩
  | 92 => ⟨S30000, .i1⟩
  | 93 => ⟨S_, .i32⟩
  | 94 => ⟨S30000, .i32⟩
  | 95 => ⟨S30000, .i32⟩
  | 96 => ⟨S30000, .i32⟩
  | 97 => ⟨S_, .i32⟩
  | 98 => ⟨S_, .i32⟩
  | 99 => ⟨S30000, .i32⟩
  | 100 => ⟨S30000, .i32⟩
  | 101 => ⟨S_, .i32⟩
  | 102 => ⟨S30000, .i32⟩
  | 103 => ⟨S30000, .i1⟩
  | 104 => ⟨S_, .i32⟩
  | 105 => ⟨S_, .i32⟩
  | 106 => ⟨S30000, .i32⟩
  | 107 => ⟨S30000, .i32⟩
  | 108 => ⟨S30000, .i32⟩
  | 109 => ⟨S_, .i32⟩
  | 110 => ⟨S30000, .i32⟩
  | 111 => ⟨S30000, .i1⟩
  | 112 => ⟨S30000, .i32⟩
  | 113 => ⟨S30000, .i32⟩
  | 114 => ⟨S_, .i32⟩
  | 115 => ⟨S30000, .i32⟩
  | 116 => ⟨S30000, .i1⟩
  | 117 => ⟨S30000, .i1⟩
  | 118 => ⟨S_, .i32⟩
  | 119 => ⟨S30000, .i32⟩
  | 120 => ⟨S30000, .i32⟩
  | 121 => ⟨S30000, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4x300000x5, .f32⟩

abbrev hbmTy0_5 (i : Nat) : BufTy := match i % 128 with
  | 0 => ⟨S30000, .i32⟩
  | 1 => ⟨S30000, .i32⟩
  | 2 => ⟨S_, .i32⟩
  | 3 => ⟨S30000, .i32⟩
  | 4 => ⟨S30000, .i1⟩
  | 5 => ⟨S_, .i32⟩
  | 6 => ⟨S30000, .i32⟩
  | 7 => ⟨S30000, .i1⟩
  | 8 => ⟨S_, .i32⟩
  | 9 => ⟨S_, .i1⟩
  | 10 => ⟨S30000, .i1⟩
  | 11 => ⟨S30000, .i1⟩
  | 12 => ⟨S30000, .i1⟩
  | 13 => ⟨S30000, .i32⟩
  | 14 => ⟨S30000, .i32⟩
  | 15 => ⟨S30000, .i32⟩
  | 16 => ⟨S_, .i32⟩
  | 17 => ⟨S_, .i32⟩
  | 18 => ⟨S30000, .i32⟩
  | 19 => ⟨S30000, .i32⟩
  | 20 => ⟨S_, .i32⟩
  | 21 => ⟨S30000, .i32⟩
  | 22 => ⟨S30000, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S30000, .i32⟩
  | 30 => ⟨S30000, .i32⟩
  | 31 => ⟨S_, .i32⟩
  | 32 => ⟨S30000, .i32⟩
  | 33 => ⟨S30000, .i1⟩
  | 34 => ⟨S_, .i32⟩
  | 35 => ⟨S30000, .i32⟩
  | 36 => ⟨S30000, .i1⟩
  | 37 => ⟨S_, .i32⟩
  | 38 => ⟨S_, .i1⟩
  | 39 => ⟨S30000, .i1⟩
  | 40 => ⟨S30000, .i1⟩
  | 41 => ⟨S30000, .i1⟩
  | 42 => ⟨S30000, .i32⟩
  | 43 => ⟨S30000, .i32⟩
  | 44 => ⟨S30000, .i32⟩
  | 45 => ⟨S_, .i32⟩
  | 46 => ⟨S_, .i32⟩
  | 47 => ⟨S30000, .i32⟩
  | 48 => ⟨S30000, .i32⟩
  | 49 => ⟨S30000x1, .i32⟩
  | 50 => ⟨S30000x1, .i32⟩
  | 51 => ⟨S30000x1, .i32⟩
  | 52 => ⟨S30000x3, .i32⟩
  | 53 => ⟨S_, .i32⟩
  | 54 => ⟨S30000x1, .i32⟩
  | 55 => ⟨S30000x4, .i32⟩
  | 56 => ⟨S1x300000x5, .f32⟩
  | 57 => ⟨S300000x5, .f32⟩
  | 58 => ⟨S_, .i32⟩
  | 59 => ⟨S1, .i32⟩
  | 60 => ⟨S_, .i32⟩
  | 61 => ⟨S1, .i32⟩
  | 62 => ⟨S2, .i32⟩
  | 63 => ⟨S_, .f32⟩
  | 64 => ⟨S300000x5, .f32⟩
  | 65 => ⟨S_, .i32⟩
  | 66 => ⟨S1, .i32⟩
  | 67 => ⟨S_, .i32⟩
  | 68 => ⟨S1, .i32⟩
  | 69 => ⟨S2, .i32⟩
  | 70 => ⟨S_, .f32⟩
  | 71 => ⟨S300000x5, .f32⟩
  | 72 => ⟨S_, .i32⟩
  | 73 => ⟨S1, .i32⟩
  | 74 => ⟨S_, .i32⟩
  | 75 => ⟨S1, .i32⟩
  | 76 => ⟨S2, .i32⟩
  | 77 => ⟨S_, .f32⟩
  | 78 => ⟨S300000x5, .f32⟩
  | 79 => ⟨S300000x3, .f32⟩
  | 80 => ⟨S1x3, .f32⟩
  | 81 => ⟨S300000x3, .f32⟩
  | 82 => ⟨S300000x3, .f32⟩
  | 83 => ⟨S1x3, .f32⟩
  | 84 => ⟨S300000x3, .f32⟩
  | 85 => ⟨S300000x3, .f32⟩
  | 86 => ⟨S300000x3, .f32⟩
  | 87 => ⟨S300000x3, .i32⟩
  | 88 => ⟨S_, .i32⟩
  | 89 => ⟨S300000x3, .i32⟩
  | 90 => ⟨S300000x3, .i1⟩
  | 91 => ⟨S1x3, .i32⟩
  | 92 => ⟨S300000x3, .i32⟩
  | 93 => ⟨S300000x3, .i1⟩
  | 94 => ⟨S300000x3, .i1⟩
  | 95 => ⟨S_, .i1⟩
  | 96 => ⟨S300000, .i1⟩
  | 97 => ⟨S300000x1, .i32⟩
  | 98 => ⟨S300000, .i32⟩
  | 99 => ⟨S_, .i32⟩
  | 100 => ⟨S300000, .i32⟩
  | 101 => ⟨S300000, .i32⟩
  | 102 => ⟨S300000x1, .i32⟩
  | 103 => ⟨S300000, .i32⟩
  | 104 => ⟨S300000, .i32⟩
  | 105 => ⟨S_, .i32⟩
  | 106 => ⟨S300000, .i32⟩
  | 107 => ⟨S300000, .i32⟩
  | 108 => ⟨S300000x1, .i32⟩
  | 109 => ⟨S300000, .i32⟩
  | 110 => ⟨S300000, .i32⟩
  | 111 => ⟨S_, .i32⟩
  | 112 => ⟨S_, .i32⟩
  | 113 => ⟨S300000, .i32⟩
  | 114 => ⟨S300000, .i32⟩
  | 115 => ⟨S300000, .i32⟩
  | 116 => ⟨S_, .i32⟩
  | 117 => ⟨S262145, .i32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S262145, .i32⟩
  | 127 => ⟨S_, .i32⟩
  | _ => ⟨S4x300000x5, .f32⟩

abbrev hbmTy0_6 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000, .i32⟩
  | 8 => ⟨S300000, .i1⟩
  | 9 => ⟨S300000, .i1⟩
  | 10 => ⟨S300000, .i32⟩
  | 11 => ⟨S_, .i32⟩
  | 12 => ⟨S_, .i32⟩
  | 13 => ⟨S300000, .i32⟩
  | 14 => ⟨S_, .i32⟩
  | 15 => ⟨S300000, .i32⟩
  | 16 => ⟨S300000, .i32⟩
  | 17 => ⟨S_, .i32⟩
  | 18 => ⟨S262145, .i32⟩
  | 19 => ⟨S_, .i32⟩
  | 20 => ⟨S_, .i32⟩
  | 21 => ⟨S300000, .i32⟩
  | 22 => ⟨S300000, .i32⟩
  | 23 => ⟨S_, .i32⟩
  | 24 => ⟨S300000, .i32⟩
  | 25 => ⟨S300000, .i32⟩
  | 26 => ⟨S_, .i32⟩
  | 27 => ⟨S_, .i32⟩
  | 28 => ⟨S300000, .i32⟩
  | 29 => ⟨S300000, .i32⟩
  | 30 => ⟨S_, .i32⟩
  | 31 => ⟨S300000, .i32⟩
  | 32 => ⟨S300000, .i1⟩
  | 33 => ⟨S_, .i32⟩
  | 34 => ⟨S300000, .i32⟩
  | 35 => ⟨S300000, .i32⟩
  | 36 => ⟨S300000, .i32⟩
  | 37 => ⟨S300000x1, .i32⟩
  | 38 => ⟨S262145, .i32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000, .i32⟩
  | 48 => ⟨S_, .i32⟩
  | 49 => ⟨S_, .i32⟩
  | 50 => ⟨S300000, .i32⟩
  | 51 => ⟨S300000, .i32⟩
  | 52 => ⟨S300000, .i32⟩
  | 53 => ⟨S300000, .i32⟩
  | 54 => ⟨S300000, .i32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000, .i32⟩
  | 64 => ⟨S_, .i1⟩
  | 65 => ⟨S1, .i1⟩
  | 66 => ⟨S299999, .i32⟩
  | 67 => ⟨S299999, .i32⟩
  | 68 => ⟨S299999, .i1⟩
  | 69 => ⟨S300000, .i1⟩
  | 70 => ⟨S_, .i32⟩
  | 71 => ⟨S_, .i32⟩
  | 72 => ⟨S300000, .i32⟩
  | 73 => ⟨S300000, .i32⟩
  | 74 => ⟨S_, .i32⟩
  | 75 => ⟨S_, .i32⟩
  | 76 => ⟨S300000, .i32⟩
  | 77 => ⟨S_, .i32⟩
  | 78 => ⟨S300000, .i32⟩
  | 79 => ⟨S300000, .i32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S300000, .i32⟩
  | 89 => ⟨S_, .i32⟩
  | 90 => ⟨S300000, .i32⟩
  | 91 => ⟨S300000, .i1⟩
  | 92 => ⟨S300000, .i1⟩
  | 93 => ⟨S_, .i32⟩
  | 94 => ⟨S300000, .i32⟩
  | 95 => ⟨S300000, .i1⟩
  | 96 => ⟨S300000, .i1⟩
  | 97 => ⟨S_, .i32⟩
  | 98 => ⟨S_, .i32⟩
  | 99 => ⟨S300000, .i32⟩
  | 100 => ⟨S300000, .i32⟩
  | 101 => ⟨S_, .i32⟩
  | 102 => ⟨S_, .i32⟩
  | 103 => ⟨S300000, .i32⟩
  | 104 => ⟨S300000, .i32⟩
  | 105 => ⟨S_, .f32⟩
  | 106 => ⟨S30001x20x5, .f32⟩
  | 107 => ⟨S300000x1, .i1⟩
  | 108 => ⟨S_, .f32⟩
  | 109 => ⟨S_, .f32⟩
  | 110 => ⟨S300000x5, .i1⟩
  | 111 => ⟨S300000x5, .f32⟩
  | 112 => ⟨S300000x5, .f32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S4x300000x5, .f32⟩

abbrev hbmTy0_7 (i : Nat) : BufTy := match i % 128 with
  | 0 => ⟨S300000x1, .i32⟩
  | 1 => ⟨S300000x2, .i32⟩
  | 2 => ⟨S30001x20x5, .f32⟩
  | 3 => ⟨S30000x20x5, .f32⟩
  | 4 => ⟨S300000, .i32⟩
  | 5 => ⟨S_, .i32⟩
  | 6 => ⟨S30001, .i32⟩
  | 7 => ⟨S300000x1, .i32⟩
  | 8 => ⟨S30001, .i32⟩
  | 9 => ⟨S30000, .i32⟩
  | 10 => ⟨S_, .i32⟩
  | 11 => ⟨S30001, .i32⟩
  | 12 => ⟨S_, .i32⟩
  | 13 => ⟨S300000, .i32⟩
  | 14 => ⟨S300000, .i1⟩
  | 15 => ⟨S300000, .i1⟩
  | 16 => ⟨S_, .i32⟩
  | 17 => ⟨S_, .i32⟩
  | 18 => ⟨S300000, .i32⟩
  | 19 => ⟨S300000, .i32⟩
  | 20 => ⟨S_, .i32⟩
  | 21 => ⟨S300000, .i32⟩
  | 22 => ⟨S300000, .i1⟩
  | 23 => ⟨S300000, .i1⟩
  | 24 => ⟨S_, .i32⟩
  | 25 => ⟨S_, .i32⟩
  | 26 => ⟨S300000, .i32⟩
  | 27 => ⟨S300000, .i32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S30001, .i32⟩
  | 37 => ⟨S30000, .i32⟩
  | 38 => ⟨S_, .i32⟩
  | 39 => ⟨S30000, .i32⟩
  | 40 => ⟨S30000, .i1⟩
  | 41 => ⟨S_, .i32⟩
  | 42 => ⟨S_, .i32⟩
  | 43 => ⟨S30000, .i32⟩
  | 44 => ⟨S30000, .i32⟩
  | 45 => ⟨S30000, .i32⟩
  | 46 => ⟨S_, .i32⟩
  | 47 => ⟨S30000, .i32⟩
  | 48 => ⟨S30000, .i1⟩
  | 49 => ⟨S30000, .i32⟩
  | 50 => ⟨S30000, .i32⟩
  | 51 => ⟨S_, .i32⟩
  | 52 => ⟨S30000, .i32⟩
  | 53 => ⟨S30000, .i1⟩
  | 54 => ⟨S30000, .i1⟩
  | 55 => ⟨S_, .i32⟩
  | 56 => ⟨S30000, .i32⟩
  | 57 => ⟨S30000, .i32⟩
  | 58 => ⟨S30000, .i32⟩
  | 59 => ⟨S_, .i32⟩
  | 60 => ⟨S_, .i32⟩
  | 61 => ⟨S30000, .i32⟩
  | 62 => ⟨S30000, .i32⟩
  | 63 => ⟨S_, .i32⟩
  | 64 => ⟨S30000, .i32⟩
  | 65 => ⟨S30000, .i1⟩
  | 66 => ⟨S_, .i32⟩
  | 67 => ⟨S_, .i32⟩
  | 68 => ⟨S30000, .i32⟩
  | 69 => ⟨S30000, .i32⟩
  | 70 => ⟨S30000, .i32⟩
  | 71 => ⟨S_, .i32⟩
  | 72 => ⟨S30000, .i32⟩
  | 73 => ⟨S30000, .i1⟩
  | 74 => ⟨S30000, .i32⟩
  | 75 => ⟨S30000, .i32⟩
  | 76 => ⟨S_, .i32⟩
  | 77 => ⟨S30000, .i32⟩
  | 78 => ⟨S30000, .i1⟩
  | 79 => ⟨S30000, .i1⟩
  | 80 => ⟨S_, .i32⟩
  | 81 => ⟨S30000, .i32⟩
  | 82 => ⟨S30000, .i32⟩
  | 83 => ⟨S30000, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S30000, .i32⟩
  | 91 => ⟨S30000, .i32⟩
  | 92 => ⟨S_, .i32⟩
  | 93 => ⟨S30000, .i32⟩
  | 94 => ⟨S30000, .i1⟩
  | 95 => ⟨S_, .i32⟩
  | 96 => ⟨S30000, .i32⟩
  | 97 => ⟨S30000, .i1⟩
  | 98 => ⟨S_, .i32⟩
  | 99 => ⟨S_, .i1⟩
  | 100 => ⟨S30000, .i1⟩
  | 101 => ⟨S30000, .i1⟩
  | 102 => ⟨S30000, .i1⟩
  | 103 => ⟨S30000, .i32⟩
  | 104 => ⟨S30000, .i32⟩
  | 105 => ⟨S30000, .i32⟩
  | 106 => ⟨S_, .i32⟩
  | 107 => ⟨S_, .i32⟩
  | 108 => ⟨S30000, .i32⟩
  | 109 => ⟨S30000, .i32⟩
  | 110 => ⟨S_, .i32⟩
  | 111 => ⟨S30000, .i32⟩
  | 112 => ⟨S30000, .i1⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S30000, .i32⟩
  | 120 => ⟨S30000, .i32⟩
  | 121 => ⟨S_, .i32⟩
  | 122 => ⟨S30000, .i32⟩
  | 123 => ⟨S30000, .i1⟩
  | 124 => ⟨S_, .i32⟩
  | 125 => ⟨S30000, .i32⟩
  | 126 => ⟨S30000, .i1⟩
  | 127 => ⟨S_, .i32⟩
  | _ => ⟨S4x300000x5, .f32⟩

abbrev hbmTy0_8 (i : Nat) : BufTy := match i % 128 with
  | 0 => ⟨S_, .i1⟩
  | 1 => ⟨S30000, .i1⟩
  | 2 => ⟨S30000, .i1⟩
  | 3 => ⟨S30000, .i1⟩
  | 4 => ⟨S30000, .i32⟩
  | 5 => ⟨S30000, .i32⟩
  | 6 => ⟨S30000, .i32⟩
  | 7 => ⟨S_, .i32⟩
  | 8 => ⟨S_, .i32⟩
  | 9 => ⟨S30000, .i32⟩
  | 10 => ⟨S30000, .i32⟩
  | 11 => ⟨S30000x1, .i32⟩
  | 12 => ⟨S30000x1, .i32⟩
  | 13 => ⟨S30000x1, .i32⟩
  | 14 => ⟨S30000x3, .i32⟩
  | 15 => ⟨S_, .i32⟩
  | 16 => ⟨S30000x1, .i32⟩
  | 17 => ⟨S30000x4, .i32⟩
  | 18 => ⟨S1x300000x5, .f32⟩
  | 19 => ⟨S300000x5, .f32⟩
  | 20 => ⟨S_, .i32⟩
  | 21 => ⟨S1, .i32⟩
  | 22 => ⟨S_, .i32⟩
  | 23 => ⟨S1, .i32⟩
  | 24 => ⟨S2, .i32⟩
  | 25 => ⟨S_, .f32⟩
  | 26 => ⟨S300000x5, .f32⟩
  | 27 => ⟨S_, .i32⟩
  | 28 => ⟨S1, .i32⟩
  | 29 => ⟨S_, .i32⟩
  | 30 => ⟨S1, .i32⟩
  | 31 => ⟨S2, .i32⟩
  | 32 => ⟨S_, .f32⟩
  | 33 => ⟨S300000x5, .f32⟩
  | 34 => ⟨S_, .i32⟩
  | 35 => ⟨S1, .i32⟩
  | 36 => ⟨S_, .i32⟩
  | 37 => ⟨S1, .i32⟩
  | 38 => ⟨S2, .i32⟩
  | 39 => ⟨S_, .f32⟩
  | 40 => ⟨S300000x5, .f32⟩
  | 41 => ⟨S300000x3, .f32⟩
  | 42 => ⟨S1x3, .f32⟩
  | 43 => ⟨S300000x3, .f32⟩
  | 44 => ⟨S300000x3, .f32⟩
  | 45 => ⟨S1x3, .f32⟩
  | 46 => ⟨S300000x3, .f32⟩
  | 47 => ⟨S300000x3, .f32⟩
  | 48 => ⟨S300000x3, .f32⟩
  | 49 => ⟨S300000x3, .i32⟩
  | 50 => ⟨S_, .i32⟩
  | 51 => ⟨S300000x3, .i32⟩
  | 52 => ⟨S300000x3, .i1⟩
  | 53 => ⟨S1x3, .i32⟩
  | 54 => ⟨S300000x3, .i32⟩
  | 55 => ⟨S300000x3, .i1⟩
  | 56 => ⟨S300000x3, .i1⟩
  | 57 => ⟨S_, .i1⟩
  | 58 => ⟨S300000, .i1⟩
  | 59 => ⟨S300000x1, .i32⟩
  | 60 => ⟨S300000, .i32⟩
  | 61 => ⟨S_, .i32⟩
  | 62 => ⟨S300000, .i32⟩
  | 63 => ⟨S300000, .i32⟩
  | 64 => ⟨S300000x1, .i32⟩
  | 65 => ⟨S300000, .i32⟩
  | 66 => ⟨S300000, .i32⟩
  | 67 => ⟨S_, .i32⟩
  | 68 => ⟨S300000, .i32⟩
  | 69 => ⟨S300000, .i32⟩
  | 70 => ⟨S300000x1, .i32⟩
  | 71 => ⟨S300000, .i32⟩
  | 72 => ⟨S300000, .i32⟩
  | 73 => ⟨S_, .i32⟩
  | 74 => ⟨S_, .i32⟩
  | 75 => ⟨S300000, .i32⟩
  | 76 => ⟨S300000, .i32⟩
  | 77 => ⟨S300000, .i32⟩
  | 78 => ⟨S_, .i32⟩
  | 79 => ⟨S262145, .i32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S262145, .i32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S300000, .i32⟩
  | 98 => ⟨S300000, .i1⟩
  | 99 => ⟨S300000, .i1⟩
  | 100 => ⟨S300000, .i32⟩
  | 101 => ⟨S_, .i32⟩
  | 102 => ⟨S_, .i32⟩
  | 103 => ⟨S300000, .i32⟩
  | 104 => ⟨S_, .i32⟩
  | 105 => ⟨S300000, .i32⟩
  | 106 => ⟨S300000, .i32⟩
  | 107 => ⟨S_, .i32⟩
  | 108 => ⟨S262145, .i32⟩
  | 109 => ⟨S_, .i32⟩
  | 110 => ⟨S_, .i32⟩
  | 111 => ⟨S300000, .i32⟩
  | 112 => ⟨S300000, .i32⟩
  | 113 => ⟨S_, .i32⟩
  | 114 => ⟨S300000, .i32⟩
  | 115 => ⟨S300000, .i32⟩
  | 116 => ⟨S_, .i32⟩
  | 117 => ⟨S_, .i32⟩
  | 118 => ⟨S300000, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S4x300000x5, .f32⟩

abbrev hbmTy0_9 (i : Nat) : BufTy := match i % 128 with
  | 0 => ⟨S262145, .i32⟩
  | 1 => ⟨S_, .i32⟩
  | 2 => ⟨S300000, .i32⟩
  | 3 => ⟨S300000, .i1⟩
  | 4 => ⟨S_, .i32⟩
  | 5 => ⟨S300000, .i32⟩
  | 6 => ⟨S300000, .i32⟩
  | 7 => ⟨S300000, .i32⟩
  | 8 => ⟨S300000x1, .i32⟩
  | 9 => ⟨S300000, .i32⟩
  | 10 => ⟨S_, .i32⟩
  | 11 => ⟨S_, .i32⟩
  | 12 => ⟨S300000, .i32⟩
  | 13 => ⟨S300000, .i32⟩
  | 14 => ⟨S300000, .i32⟩
  | 15 => ⟨S300000, .i32⟩
  | 16 => ⟨S300000, .i32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000, .i32⟩
  | 26 => ⟨S_, .i1⟩
  | 27 => ⟨S1, .i1⟩
  | 28 => ⟨S299999, .i32⟩
  | 29 => ⟨S299999, .i32⟩
  | 30 => ⟨S299999, .i1⟩
  | 31 => ⟨S300000, .i1⟩
  | 32 => ⟨S_, .i32⟩
  | 33 => ⟨S_, .i32⟩
  | 34 => ⟨S300000, .i32⟩
  | 35 => ⟨S300000, .i32⟩
  | 36 => ⟨S_, .i32⟩
  | 37 => ⟨S_, .i32⟩
  | 38 => ⟨S300000, .i32⟩
  | 39 => ⟨S_, .i32⟩
  | 40 => ⟨S300000, .i32⟩
  | 41 => ⟨S300000, .i32⟩
  | 42 => ⟨S_, .i32⟩
  | 43 => ⟨S300000, .i32⟩
  | 44 => ⟨S300000, .i1⟩
  | 45 => ⟨S_, .i32⟩
  | 46 => ⟨S300000, .i32⟩
  | 47 => ⟨S300000, .i32⟩
  | 48 => ⟨S300000, .i32⟩
  | 49 => ⟨S300000x1, .i32⟩
  | 50 => ⟨S300000, .i32⟩
  | 51 => ⟨S_, .i32⟩
  | 52 => ⟨S300000, .i32⟩
  | 53 => ⟨S300000, .i1⟩
  | 54 => ⟨S300000, .i1⟩
  | 55 => ⟨S_, .i32⟩
  | 56 => ⟨S300000, .i32⟩
  | 57 => ⟨S300000, .i1⟩
  | 58 => ⟨S300000, .i1⟩
  | 59 => ⟨S_, .i32⟩
  | 60 => ⟨S_, .i32⟩
  | 61 => ⟨S300000, .i32⟩
  | 62 => ⟨S300000, .i32⟩
  | 63 => ⟨S_, .i32⟩
  | 64 => ⟨S_, .i32⟩
  | 65 => ⟨S300000, .i32⟩
  | 66 => ⟨S300000, .i32⟩
  | 67 => ⟨S_, .f32⟩
  | 68 => ⟨S30001x20x5, .f32⟩
  | 69 => ⟨S300000x1, .i1⟩
  | 70 => ⟨S_, .f32⟩
  | 71 => ⟨S_, .f32⟩
  | 72 => ⟨S300000x5, .i1⟩
  | 73 => ⟨S300000x5, .f32⟩
  | 74 => ⟨S300000x5, .f32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x1, .i32⟩
  | 91 => ⟨S300000x2, .i32⟩
  | 92 => ⟨S30001x20x5, .f32⟩
  | 93 => ⟨S30000x20x5, .f32⟩
  | 94 => ⟨S300000, .i32⟩
  | 95 => ⟨S_, .i32⟩
  | 96 => ⟨S30001, .i32⟩
  | 97 => ⟨S300000x1, .i32⟩
  | 98 => ⟨S30001, .i32⟩
  | 99 => ⟨S30000, .i32⟩
  | 100 => ⟨S_, .i32⟩
  | 101 => ⟨S30001, .i32⟩
  | 102 => ⟨S_, .i32⟩
  | 103 => ⟨S300000, .i32⟩
  | 104 => ⟨S300000, .i1⟩
  | 105 => ⟨S300000, .i1⟩
  | 106 => ⟨S_, .i32⟩
  | 107 => ⟨S_, .i32⟩
  | 108 => ⟨S300000, .i32⟩
  | 109 => ⟨S300000, .i32⟩
  | 110 => ⟨S_, .i32⟩
  | 111 => ⟨S300000, .i32⟩
  | 112 => ⟨S300000, .i1⟩
  | 113 => ⟨S300000, .i1⟩
  | 114 => ⟨S_, .i32⟩
  | 115 => ⟨S_, .i32⟩
  | 116 => ⟨S300000, .i32⟩
  | 117 => ⟨S300000, .i32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S30001, .i32⟩
  | 127 => ⟨S30000, .i32⟩
  | _ => ⟨S4x300000x5, .f32⟩

abbrev hbmTy0_10 (i : Nat) : BufTy := match i % 128 with
  | 0 => ⟨S_, .i32⟩
  | 1 => ⟨S30000, .i32⟩
  | 2 => ⟨S30000, .i1⟩
  | 3 => ⟨S_, .i32⟩
  | 4 => ⟨S_, .i32⟩
  | 5 => ⟨S30000, .i32⟩
  | 6 => ⟨S30000, .i32⟩
  | 7 => ⟨S30000, .i32⟩
  | 8 => ⟨S_, .i32⟩
  | 9 => ⟨S30000, .i32⟩
  | 10 => ⟨S30000, .i1⟩
  | 11 => ⟨S30000, .i32⟩
  | 12 => ⟨S30000, .i32⟩
  | 13 => ⟨S_, .i32⟩
  | 14 => ⟨S30000, .i32⟩
  | 15 => ⟨S30000, .i1⟩
  | 16 => ⟨S30000, .i1⟩
  | 17 => ⟨S_, .i32⟩
  | 18 => ⟨S30000, .i32⟩
  | 19 => ⟨S30000, .i32⟩
  | 20 => ⟨S30000, .i32⟩
  | 21 => ⟨S_, .i32⟩
  | 22 => ⟨S_, .i32⟩
  | 23 => ⟨S30000, .i32⟩
  | 24 => ⟨S30000, .i32⟩
  | 25 => ⟨S_, .i32⟩
  | 26 => ⟨S30000, .i32⟩
  | 27 => ⟨S30000, .i1⟩
  | 28 => ⟨S_, .i32⟩
  | 29 => ⟨S_, .i32⟩
  | 30 => ⟨S30000, .i32⟩
  | 31 => ⟨S30000, .i32⟩
  | 32 => ⟨S30000, .i32⟩
  | 33 => ⟨S_, .i32⟩
  | 34 => ⟨S30000, .i32⟩
  | 35 => ⟨S30000, .i1⟩
  | 36 => ⟨S30000, .i32⟩
  | 37 => ⟨S30000, .i32⟩
  | 38 => ⟨S_, .i32⟩
  | 39 => ⟨S30000, .i32⟩
  | 40 => ⟨S30000, .i1⟩
  | 41 => ⟨S30000, .i1⟩
  | 42 => ⟨S_, .i32⟩
  | 43 => ⟨S30000, .i32⟩
  | 44 => ⟨S30000, .i32⟩
  | 45 => ⟨S30000, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S30000, .i32⟩
  | 53 => ⟨S30000, .i32⟩
  | 54 => ⟨S_, .i32⟩
  | 55 => ⟨S30000, .i32⟩
  | 56 => ⟨S30000, .i1⟩
  | 57 => ⟨S_, .i32⟩
  | 58 => ⟨S30000, .i32⟩
  | 59 => ⟨S30000, .i1⟩
  | 60 => ⟨S_, .i32⟩
  | 61 => ⟨S_, .i1⟩
  | 62 => ⟨S30000, .i1⟩
  | 63 => ⟨S30000, .i1⟩
  | 64 => ⟨S30000, .i1⟩
  | 65 => ⟨S30000, .i32⟩
  | 66 => ⟨S30000, .i32⟩
  | 67 => ⟨S30000, .i32⟩
  | 68 => ⟨S_, .i32⟩
  | 69 => ⟨S_, .i32⟩
  | 70 => ⟨S30000, .i32⟩
  | 71 => ⟨S30000, .i32⟩
  | 72 => ⟨S_, .i32⟩
  | 73 => ⟨S30000, .i32⟩
  | 74 => ⟨S30000, .i1⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S30000, .i32⟩
  | 82 => ⟨S30000, .i32⟩
  | 83 => ⟨S_, .i32⟩
  | 84 => ⟨S30000, .i32⟩
  | 85 => ⟨S30000, .i1⟩
  | 86 => ⟨S_, .i32⟩
  | 87 => ⟨S30000, .i32⟩
  | 88 => ⟨S30000, .i1⟩
  | 89 => ⟨S_, .i32⟩
  | 90 => ⟨S_, .i1⟩
  | 91 => ⟨S30000, .i1⟩
  | 92 => ⟨S30000, .i1⟩
  | 93 => ⟨S30000, .i1⟩
  | 94 => ⟨S30000, .i32⟩
  | 95 => ⟨S30000, .i32⟩
  | 96 => ⟨S30000, .i32⟩
  | 97 => ⟨S_, .i32⟩
  | 98 => ⟨S_, .i32⟩
  | 99 => ⟨S30000, .i32⟩
  | 100 => ⟨S30000, .i32⟩
  | 101 => ⟨S30000x1, .i32⟩
  | 102 => ⟨S30000x1, .i32⟩
  | 103 => ⟨S30000x1, .i32⟩
  | 104 => ⟨S30000x3, .i32⟩
  | 105 => ⟨S_, .i32⟩
  | 106 => ⟨S30000x1, .i32⟩
  | 107 => ⟨S30000x4, .i32⟩
  | 108 => ⟨S120000x20x5, .f32⟩
  | 109 => ⟨S120000, .i32⟩
  | 110 => ⟨S120000x4, .i32⟩
  | _ => ⟨S4x300000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4x300000x5, .f32⟩

abbrev bufTy : (tb : Table) → Fin (tcTables nBuf tb) → BufTy
  | .hbm, ⟨i, _⟩ => hbmTy i
  | _, _ => ⟨S4x300000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_c_5 : Ref sig .tc := ⟨.hbm, 15, rfl⟩
abbrev main_v7 : Ref sig .tc := ⟨.hbm, 16, rfl⟩
abbrev main_v8 : Ref sig .tc := ⟨.hbm, 17, rfl⟩
abbrev main_cst_6 : Ref sig .tc := ⟨.hbm, 18, rfl⟩
abbrev main_v9 : Ref sig .tc := ⟨.hbm, 19, rfl⟩
abbrev main_c_7 : Ref sig .tc := ⟨.hbm, 20, rfl⟩
abbrev main_v10 : Ref sig .tc := ⟨.hbm, 21, rfl⟩
abbrev main_c_8 : Ref sig .tc := ⟨.hbm, 22, rfl⟩
abbrev main_v11 : Ref sig .tc := ⟨.hbm, 23, rfl⟩
abbrev main_v12 : Ref sig .tc := ⟨.hbm, 24, rfl⟩
abbrev main_cst_9 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_10 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_11 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_12 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_13 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_14 : Ref sig .tc := ⟨.hbm, 59, rfl⟩
abbrev main_call0_v0 : Ref sig .tc := ⟨.hbm, 60, rfl⟩
abbrev main_call0_v1 : Ref sig .tc := ⟨.hbm, 61, rfl⟩
abbrev main_v42 : Ref sig .tc := ⟨.hbm, 62, rfl⟩
abbrev main_v43 : Ref sig .tc := ⟨.hbm, 63, rfl⟩
abbrev main_c_15 : Ref sig .tc := ⟨.hbm, 64, rfl⟩
abbrev main_v44 : Ref sig .tc := ⟨.hbm, 65, rfl⟩
abbrev main_c_16 : Ref sig .tc := ⟨.hbm, 66, rfl⟩
abbrev main_v45 : Ref sig .tc := ⟨.hbm, 67, rfl⟩
abbrev main_v46 : Ref sig .tc := ⟨.hbm, 68, rfl⟩
abbrev main_c_17 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_18 : Ref sig .tc := ⟨.hbm, 75, rfl⟩
abbrev main_v52 : Ref sig .tc := ⟨.hbm, 76, rfl⟩
abbrev main_v53 : Ref sig .tc := ⟨.hbm, 77, rfl⟩
abbrev main_c_19 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_call0_c : Ref sig .tc := ⟨.hbm, 87, rfl⟩
abbrev main_call1_call0_v0 : Ref sig .tc := ⟨.hbm, 88, rfl⟩
abbrev main_v62 : Ref sig .tc := ⟨.hbm, 89, rfl⟩
abbrev main_c_20 : Ref sig .tc := ⟨.hbm, 90, rfl⟩
abbrev main_v63 : Ref sig .tc := ⟨.hbm, 91, rfl⟩
abbrev main_v64 : Ref sig .tc := ⟨.hbm, 92, rfl⟩
abbrev main_c_21 : Ref sig .tc := ⟨.hbm, 93, rfl⟩
abbrev main_v65 : Ref sig .tc := ⟨.hbm, 94, rfl⟩
abbrev main_c_22 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_c_23 : Ref sig .tc := ⟨.hbm, 99, rfl⟩
abbrev main_v67 : Ref sig .tc := ⟨.hbm, 100, rfl⟩
abbrev main_v68 : Ref sig .tc := ⟨.hbm, 101, rfl⟩
abbrev main_c_24 : Ref sig .tc := ⟨.hbm, 102, rfl⟩
abbrev main_call3_v0 : Ref sig .tc := ⟨.hbm, 103, rfl⟩
abbrev main_call3_v1 : Ref sig .tc := ⟨.hbm, 104, rfl⟩
abbrev main_v69 : Ref sig .tc := ⟨.hbm, 105, rfl⟩
abbrev main_c_25 : Ref sig .tc := ⟨.hbm, 106, rfl⟩
abbrev main_v70 : Ref sig .tc := ⟨.hbm, 107, rfl⟩
abbrev main_v71 : Ref sig .tc := ⟨.hbm, 108, rfl⟩
abbrev main_c_26 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_27 : Ref sig .tc := ⟨.hbm, 115, rfl⟩
abbrev main_v77 : Ref sig .tc := ⟨.hbm, 116, rfl⟩
abbrev main_v78 : Ref sig .tc := ⟨.hbm, 117, rfl⟩
abbrev main_c_28 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_29 : Ref sig .tc := ⟨.hbm, 124, rfl⟩
abbrev main_call4_v0 : Ref sig .tc := ⟨.hbm, 125, rfl⟩
abbrev main_call4_v1 : Ref sig .tc := ⟨.hbm, 126, rfl⟩
abbrev main_v84 : Ref sig .tc := ⟨.hbm, 127, rfl⟩
abbrev main_call5_v0 : Ref sig .tc := ⟨.hbm, 128, rfl⟩
abbrev main_call5_v1_0 : Ref sig .tc := ⟨.hbm, 129, rfl⟩
abbrev main_v85 : Ref sig .tc := ⟨.hbm, 130, rfl⟩
abbrev main_c_30 : Ref sig .tc := ⟨.hbm, 131, rfl⟩
abbrev main_v86 : Ref sig .tc := ⟨.hbm, 132, rfl⟩
abbrev main_v87 : Ref sig .tc := ⟨.hbm, 133, rfl⟩
abbrev main_c_31 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_32 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_33 : Ref sig .tc := ⟨.hbm, 146, rfl⟩
abbrev main_call6_v0 : Ref sig .tc := ⟨.hbm, 147, rfl⟩
abbrev main_call6_v1 : Ref sig .tc := ⟨.hbm, 148, rfl⟩
abbrev main_v98 : Ref sig .tc := ⟨.hbm, 149, rfl⟩
abbrev main_call7_c : Ref sig .tc := ⟨.hbm, 150, rfl⟩
abbrev main_call7_v0 : Ref sig .tc := ⟨.hbm, 151, rfl⟩
abbrev main_v99 : Ref sig .tc := ⟨.hbm, 152, rfl⟩
abbrev main_c_34 : Ref sig .tc := ⟨.hbm, 153, rfl⟩
abbrev main_v100 : Ref sig .tc := ⟨.hbm, 154, rfl⟩
abbrev main_v101 : Ref sig .tc := ⟨.hbm, 155, rfl⟩
abbrev main_c_35 : Ref sig .tc := ⟨.hbm, 156, rfl⟩
abbrev main_v102 : Ref sig .tc := ⟨.hbm, 157, rfl⟩
abbrev main_v103 : Ref sig .tc := ⟨.hbm, 158, rfl⟩
abbrev main_c_36 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_c_37 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_c_38 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_39 : Ref sig .tc := ⟨.hbm, 173, rfl⟩
abbrev main_call8_v0 : Ref sig .tc := ⟨.hbm, 174, rfl⟩
abbrev main_call8_v1 : Ref sig .tc := ⟨.hbm, 175, rfl⟩
abbrev main_v115 : Ref sig .tc := ⟨.hbm, 176, rfl⟩
abbrev main_c_40 : Ref sig .tc := ⟨.hbm, 177, rfl⟩
abbrev main_call9_v0 : Ref sig .tc := ⟨.hbm, 178, rfl⟩
abbrev main_call9_v1 : Ref sig .tc := ⟨.hbm, 179, rfl⟩
abbrev main_v116 : Ref sig .tc := ⟨.hbm, 180, rfl⟩
abbrev main_cst_41 : Ref sig .tc := ⟨.hbm, 181, rfl⟩
abbrev main_v117 : Ref sig .tc := ⟨.hbm, 182, rfl⟩
abbrev main_v118 : Ref sig .tc := ⟨.hbm, 183, rfl⟩
abbrev main_cst_42 : Ref sig .tc := ⟨.hbm, 184, rfl⟩
abbrev main_call10_v0 : Ref sig .tc := ⟨.hbm, 185, rfl⟩
abbrev main_call10_v1 : Ref sig .tc := ⟨.hbm, 186, rfl⟩
abbrev main_call10_v2 : Ref sig .tc := ⟨.hbm, 187, rfl⟩
abbrev main_v119 : Ref sig .tc := ⟨.hbm, 188, rfl⟩
abbrev main_c_43 : Ref sig .tc := ⟨.hbm, 189, rfl⟩
abbrev main_v120 : Ref sig .tc := ⟨.hbm, 190, rfl⟩
abbrev main_v121 : Ref sig .tc := ⟨.hbm, 191, rfl⟩
abbrev main_c_44 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_c_45 : Ref sig .tc := ⟨.hbm, 196, rfl⟩
abbrev main_v125 : Ref sig .tc := ⟨.hbm, 197, rfl⟩
abbrev main_v126 : Ref sig .tc := ⟨.hbm, 198, rfl⟩
abbrev main_c_46 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_47 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_c_48 : Ref sig .tc := ⟨.hbm, 214, rfl⟩
abbrev main_v140 : Ref sig .tc := ⟨.hbm, 215, rfl⟩
abbrev main_c_49 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_c_50 : Ref sig .tc := ⟨.hbm, 220, rfl⟩
abbrev main_call11_v0 : Ref sig .tc := ⟨.hbm, 221, rfl⟩
abbrev main_call11_v1 : Ref sig .tc := ⟨.hbm, 222, rfl⟩
abbrev main_v144 : Ref sig .tc := ⟨.hbm, 223, rfl⟩
abbrev main_c_51 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_c_52 : Ref sig .tc := ⟨.hbm, 228, rfl⟩
abbrev main_call12_v0 : Ref sig .tc := ⟨.hbm, 229, rfl⟩
abbrev main_call12_v1 : Ref sig .tc := ⟨.hbm, 230, rfl⟩
abbrev main_v148 : Ref sig .tc := ⟨.hbm, 231, rfl⟩
abbrev main_c_53 : Ref sig .tc := ⟨.hbm, 232, rfl⟩
abbrev main_v149 : Ref sig .tc := ⟨.hbm, 233, rfl⟩
abbrev main_v150 : Ref sig .tc := ⟨.hbm, 234, rfl⟩
abbrev main_c_54 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_c_55 : Ref sig .tc := ⟨.hbm, 242, rfl⟩
abbrev main_v157 : Ref sig .tc := ⟨.hbm, 243, rfl⟩
abbrev main_v158 : Ref sig .tc := ⟨.hbm, 244, rfl⟩
abbrev main_c_56 : Ref sig .tc := ⟨.hbm, 245, rfl⟩
abbrev main_call13_v0 : Ref sig .tc := ⟨.hbm, 246, rfl⟩
abbrev main_call13_v1 : Ref sig .tc := ⟨.hbm, 247, rfl⟩
abbrev main_call13_v2 : Ref sig .tc := ⟨.hbm, 248, rfl⟩
abbrev main_call13_v3 : Ref sig .tc := ⟨.hbm, 249, rfl⟩
abbrev main_call13_v4 : Ref sig .tc := ⟨.hbm, 250, rfl⟩
abbrev main_call13_v5 : Ref sig .tc := ⟨.hbm, 251, rfl⟩
abbrev main_call13_v6 : Ref sig .tc := ⟨.hbm, 252, rfl⟩
abbrev main_call13_v7 : Ref sig .tc := ⟨.hbm, 253, rfl⟩
abbrev main_call13_v8 : Ref sig .tc := ⟨.hbm, 254, rfl⟩
abbrev main_call13_c : Ref sig .tc := ⟨.hbm, 255, rfl⟩
abbrev main_call13_v9 : Ref sig .tc := ⟨.hbm, 256, rfl⟩
abbrev main_call13_v10 : Ref sig .tc := ⟨.hbm, 257, rfl⟩
abbrev main_call13_v11 : Ref sig .tc := ⟨.hbm, 258, rfl⟩
abbrev main_call13_c_0 : Ref sig .tc := ⟨.hbm, 259, rfl⟩
abbrev main_call13_v12 : Ref sig .tc := ⟨.hbm, 260, rfl⟩
abbrev main_call13_v13 : Ref sig .tc := ⟨.hbm, 261, rfl⟩
abbrev main_v159 : Ref sig .tc := ⟨.hbm, 262, rfl⟩
abbrev main_c_57 : Ref sig .tc := ⟨.hbm, 263, rfl⟩
abbrev main_call14_v0 : Ref sig .tc := ⟨.hbm, 264, rfl⟩
abbrev main_call14_v1 : Ref sig .tc := ⟨.hbm, 265, rfl⟩
abbrev main_v160 : Ref sig .tc := ⟨.hbm, 266, rfl⟩
abbrev main_c_58 : Ref sig .tc := ⟨.hbm, 267, rfl⟩
abbrev main_v161 : Ref sig .tc := ⟨.hbm, 268, rfl⟩
abbrev main_v162 : Ref sig .tc := ⟨.hbm, 269, rfl⟩
abbrev main_c_59 : Ref sig .tc := ⟨.hbm, 270, rfl⟩
abbrev main_call15_v0 : Ref sig .tc := ⟨.hbm, 271, rfl⟩
abbrev main_call15_v1 : Ref sig .tc := ⟨.hbm, 272, rfl⟩
abbrev main_call15_v2 : Ref sig .tc := ⟨.hbm, 273, rfl⟩
abbrev main_call15_v3 : Ref sig .tc := ⟨.hbm, 274, rfl⟩
abbrev main_call15_v4 : Ref sig .tc := ⟨.hbm, 275, rfl⟩
abbrev main_call15_v5 : Ref sig .tc := ⟨.hbm, 276, rfl⟩
abbrev main_call15_v6 : Ref sig .tc := ⟨.hbm, 277, rfl⟩
abbrev main_call15_v7 : Ref sig .tc := ⟨.hbm, 278, rfl⟩
abbrev main_call15_v8 : Ref sig .tc := ⟨.hbm, 279, rfl⟩
abbrev main_call15_c : Ref sig .tc := ⟨.hbm, 280, rfl⟩
abbrev main_call15_v9 : Ref sig .tc := ⟨.hbm, 281, rfl⟩
abbrev main_call15_v10 : Ref sig .tc := ⟨.hbm, 282, rfl⟩
abbrev main_call15_v11 : Ref sig .tc := ⟨.hbm, 283, rfl⟩
abbrev main_call15_c_0 : Ref sig .tc := ⟨.hbm, 284, rfl⟩
abbrev main_call15_v12 : Ref sig .tc := ⟨.hbm, 285, rfl⟩
abbrev main_call15_v13 : Ref sig .tc := ⟨.hbm, 286, rfl⟩
abbrev main_v163 : Ref sig .tc := ⟨.hbm, 287, rfl⟩
abbrev main_c_60 : Ref sig .tc := ⟨.hbm, 288, rfl⟩
abbrev main_call16_v0 : Ref sig .tc := ⟨.hbm, 289, rfl⟩
abbrev main_call16_c : Ref sig .tc := ⟨.hbm, 290, rfl⟩
abbrev main_call16_v1 : Ref sig .tc := ⟨.hbm, 291, rfl⟩
abbrev main_call16_c_0 : Ref sig .tc := ⟨.hbm, 292, rfl⟩
abbrev main_call16_v2 : Ref sig .tc := ⟨.hbm, 293, rfl⟩
abbrev main_call16_v3 : Ref sig .tc := ⟨.hbm, 294, rfl⟩
abbrev main_call16_v4 : Ref sig .tc := ⟨.hbm, 295, rfl⟩
abbrev main_call16_c_1 : Ref sig .tc := ⟨.hbm, 296, rfl⟩
abbrev main_call16_v5 : Ref sig .tc := ⟨.hbm, 297, rfl⟩
abbrev main_call16_v6 : Ref sig .tc := ⟨.hbm, 298, rfl⟩
abbrev main_call16_c_2 : Ref sig .tc := ⟨.hbm, 299, rfl⟩
abbrev main_call16_v7 : Ref sig .tc := ⟨.hbm, 300, rfl⟩
abbrev main_call16_v8 : Ref sig .tc := ⟨.hbm, 301, rfl⟩
abbrev main_call16_c_3 : Ref sig .tc := ⟨.hbm, 302, rfl⟩
abbrev main_call16_v9 : Ref sig .tc := ⟨.hbm, 303, rfl⟩
abbrev main_call16_v10 : Ref sig .tc := ⟨.hbm, 304, rfl⟩
abbrev main_call16_v11 : Ref sig .tc := ⟨.hbm, 305, rfl⟩
abbrev main_call16_v12 : Ref sig .tc := ⟨.hbm, 306, rfl⟩
abbrev main_call16_v13 : Ref sig .tc := ⟨.hbm, 307, rfl⟩
abbrev main_call16_v14 : Ref sig .tc := ⟨.hbm, 308, rfl⟩
abbrev main_v164 : Ref sig .tc := ⟨.hbm, 309, rfl⟩
abbrev main_c_61 : Ref sig .tc := ⟨.hbm, 310, rfl⟩
abbrev main_call17_v0 : Ref sig .tc := ⟨.hbm, 311, rfl⟩
abbrev main_call17_v1 : Ref sig .tc := ⟨.hbm, 312, rfl⟩
abbrev main_v165 : Ref sig .tc := ⟨.hbm, 313, rfl⟩
abbrev main_c_62 : Ref sig .tc := ⟨.hbm, 314, rfl⟩
abbrev main_v166 : Ref sig .tc := ⟨.hbm, 315, rfl⟩
abbrev main_v167 : Ref sig .tc := ⟨.hbm, 316, rfl⟩
abbrev main_c_63 : Ref sig .tc := ⟨.hbm, 317, rfl⟩
abbrev main_call18_v0 : Ref sig .tc := ⟨.hbm, 318, rfl⟩
abbrev main_call18_c : Ref sig .tc := ⟨.hbm, 319, rfl⟩
abbrev main_call18_v1 : Ref sig .tc := ⟨.hbm, 320, rfl⟩
abbrev main_call18_c_0 : Ref sig .tc := ⟨.hbm, 321, rfl⟩
abbrev main_call18_v2 : Ref sig .tc := ⟨.hbm, 322, rfl⟩
abbrev main_call18_v3 : Ref sig .tc := ⟨.hbm, 323, rfl⟩
abbrev main_call18_v4 : Ref sig .tc := ⟨.hbm, 324, rfl⟩
abbrev main_call18_c_1 : Ref sig .tc := ⟨.hbm, 325, rfl⟩
abbrev main_call18_v5 : Ref sig .tc := ⟨.hbm, 326, rfl⟩
abbrev main_call18_v6 : Ref sig .tc := ⟨.hbm, 327, rfl⟩
abbrev main_call18_c_2 : Ref sig .tc := ⟨.hbm, 328, rfl⟩
abbrev main_call18_v7 : Ref sig .tc := ⟨.hbm, 329, rfl⟩
abbrev main_call18_v8 : Ref sig .tc := ⟨.hbm, 330, rfl⟩
abbrev main_call18_c_3 : Ref sig .tc := ⟨.hbm, 331, rfl⟩
abbrev main_call18_v9 : Ref sig .tc := ⟨.hbm, 332, rfl⟩
abbrev main_call18_v10 : Ref sig .tc := ⟨.hbm, 333, rfl⟩
abbrev main_call18_v11 : Ref sig .tc := ⟨.hbm, 334, rfl⟩
abbrev main_call18_v12 : Ref sig .tc := ⟨.hbm, 335, rfl⟩
abbrev main_call18_v13 : Ref sig .tc := ⟨.hbm, 336, rfl⟩
abbrev main_call18_v14 : Ref sig .tc := ⟨.hbm, 337, rfl⟩
abbrev main_v168 : Ref sig .tc := ⟨.hbm, 338, rfl⟩
abbrev main_c_64 : Ref sig .tc := ⟨.hbm, 339, rfl⟩
abbrev main_call19_v0 : Ref sig .tc := ⟨.hbm, 340, rfl⟩
abbrev main_call19_v1 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_c_65 : Ref sig .tc := ⟨.hbm, 347, rfl⟩
abbrev main_v174 : Ref sig .tc := ⟨.hbm, 348, rfl⟩
abbrev main_v175 : Ref sig .tc := ⟨.hbm, 349, rfl⟩
abbrev main_v176 : Ref sig .tc := ⟨.hbm, 350, rfl⟩
abbrev main_v177 : Ref sig .tc := ⟨.hbm, 351, rfl⟩
abbrev main_c_66 : Ref sig .tc := ⟨.hbm, 352, rfl⟩
abbrev main_v178 : Ref sig .tc := ⟨.hbm, 353, rfl⟩
abbrev main_c_67 : Ref sig .tc := ⟨.hbm, 354, rfl⟩
abbrev main_v179 : Ref sig .tc := ⟨.hbm, 355, rfl⟩
abbrev main_v180 : Ref sig .tc := ⟨.hbm, 356, rfl⟩
abbrev main_cst_68 : Ref sig .tc := ⟨.hbm, 357, rfl⟩
abbrev main_v181 : Ref sig .tc := ⟨.hbm, 358, rfl⟩
abbrev main_c_69 : Ref sig .tc := ⟨.hbm, 359, rfl⟩
abbrev main_v182 : Ref sig .tc := ⟨.hbm, 360, rfl⟩
abbrev main_c_70 : Ref sig .tc := ⟨.hbm, 361, rfl⟩
abbrev main_v183 : Ref sig .tc := ⟨.hbm, 362, rfl⟩
abbrev main_v184 : Ref sig .tc := ⟨.hbm, 363, rfl⟩
abbrev main_cst_71 : Ref sig .tc := ⟨.hbm, 364, rfl⟩
abbrev main_v185 : Ref sig .tc := ⟨.hbm, 365, rfl⟩
abbrev main_c_72 : Ref sig .tc := ⟨.hbm, 366, rfl⟩
abbrev main_v186 : Ref sig .tc := ⟨.hbm, 367, rfl⟩
abbrev main_c_73 : Ref sig .tc := ⟨.hbm, 368, rfl⟩
abbrev main_v187 : Ref sig .tc := ⟨.hbm, 369, rfl⟩
abbrev main_v188 : Ref sig .tc := ⟨.hbm, 370, rfl⟩
abbrev main_cst_74 : Ref sig .tc := ⟨.hbm, 371, rfl⟩
abbrev main_v189 : Ref sig .tc := ⟨.hbm, 372, rfl⟩
abbrev main_v190 : Ref sig .tc := ⟨.hbm, 373, rfl⟩
abbrev main_v191 : Ref sig .tc := ⟨.hbm, 374, rfl⟩
abbrev main_v192 : Ref sig .tc := ⟨.hbm, 375, rfl⟩
abbrev main_v193 : Ref sig .tc := ⟨.hbm, 376, rfl⟩
abbrev main_v194 : Ref sig .tc := ⟨.hbm, 377, rfl⟩
abbrev main_v195 : Ref sig .tc := ⟨.hbm, 378, rfl⟩
abbrev main_v196 : Ref sig .tc := ⟨.hbm, 379, rfl⟩
abbrev main_v197 : Ref sig .tc := ⟨.hbm, 380, rfl⟩
abbrev main_v198 : Ref sig .tc := ⟨.hbm, 381, rfl⟩
abbrev main_c_75 : Ref sig .tc := ⟨.hbm, 382, rfl⟩
abbrev main_v199 : Ref sig .tc := ⟨.hbm, 383, rfl⟩
abbrev main_v200 : Ref sig .tc := ⟨.hbm, 384, rfl⟩
abbrev main_v201 : Ref sig .tc := ⟨.hbm, 385, rfl⟩
abbrev main_v202 : Ref sig .tc := ⟨.hbm, 386, rfl⟩
abbrev main_v203 : Ref sig .tc := ⟨.hbm, 387, rfl⟩
abbrev main_v204 : Ref sig .tc := ⟨.hbm, 388, rfl⟩
abbrev main_c_76 : Ref sig .tc := ⟨.hbm, 389, rfl⟩
abbrev main_v205 : Ref sig .tc := ⟨.hbm, 390, rfl⟩
abbrev main_v206 : Ref sig .tc := ⟨.hbm, 391, rfl⟩
abbrev main_v207 : Ref sig .tc := ⟨.hbm, 392, rfl⟩
abbrev main_c_77 : Ref sig .tc := ⟨.hbm, 393, rfl⟩
abbrev main_v208 : Ref sig .tc := ⟨.hbm, 394, rfl⟩
abbrev main_v209 : Ref sig .tc := ⟨.hbm, 395, rfl⟩
abbrev main_v210 : Ref sig .tc := ⟨.hbm, 396, rfl⟩
abbrev main_v211 : Ref sig .tc := ⟨.hbm, 397, rfl⟩
abbrev main_v212 : Ref sig .tc := ⟨.hbm, 398, rfl⟩
abbrev main_c_78 : Ref sig .tc := ⟨.hbm, 399, rfl⟩
abbrev main_v213 : Ref sig .tc := ⟨.hbm, 400, rfl⟩
abbrev main_v214 : Ref sig .tc := ⟨.hbm, 401, rfl⟩
abbrev main_v215 : Ref sig .tc := ⟨.hbm, 402, rfl⟩
abbrev main_v216 : Ref sig .tc := ⟨.hbm, 403, rfl⟩
abbrev main_v217 : Ref sig .tc := ⟨.hbm, 404, rfl⟩
abbrev main_c_79 : Ref sig .tc := ⟨.hbm, 405, rfl⟩
abbrev main_call20_v0 : Ref sig .tc := ⟨.hbm, 406, rfl⟩
abbrev main_call20_v1 : Ref sig .tc := ⟨.hbm, 407, rfl⟩
abbrev main_v218 : Ref sig .tc := ⟨.hbm, 408, rfl⟩
abbrev main_v219 : Ref sig .tc := ⟨.hbm, 409, rfl⟩
abbrev main_c_80 : Ref sig .tc := ⟨.hbm, 410, rfl⟩
abbrev main_v220 : Ref sig .tc := ⟨.hbm, 411, rfl⟩
abbrev main_c_81 : Ref sig .tc := ⟨.hbm, 412, rfl⟩
abbrev main_v221 : Ref sig .tc := ⟨.hbm, 413, rfl⟩
abbrev main_v222 : Ref sig .tc := ⟨.hbm, 414, rfl⟩
abbrev main_c_82 : Ref sig .tc := ⟨.hbm, 415, rfl⟩
abbrev main_v223 : Ref sig .tc := ⟨.hbm, 416, rfl⟩
abbrev main_v224 : Ref sig .tc := ⟨.hbm, 417, rfl⟩
abbrev main_v225 : Ref sig .tc := ⟨.hbm, 418, rfl⟩
abbrev main_v226 : Ref sig .tc := ⟨.hbm, 419, rfl⟩
abbrev main_v227 : Ref sig .tc := ⟨.hbm, 420, rfl⟩
abbrev main_c_83 : Ref sig .tc := ⟨.hbm, 421, rfl⟩
abbrev main_v228 : Ref sig .tc := ⟨.hbm, 422, rfl⟩
abbrev main_v229 : Ref sig .tc := ⟨.hbm, 423, rfl⟩
abbrev main_c_84 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_v237 : Ref sig .tc := ⟨.hbm, 432, rfl⟩
abbrev main_call21_call0_c : Ref sig .tc := ⟨.hbm, 433, rfl⟩
abbrev main_call21_call0_v0 : Ref sig .tc := ⟨.hbm, 434, rfl⟩
abbrev main_v238 : Ref sig .tc := ⟨.hbm, 435, rfl⟩
abbrev main_c_85 : Ref sig .tc := ⟨.hbm, 436, rfl⟩
abbrev main_v239 : Ref sig .tc := ⟨.hbm, 437, rfl⟩
abbrev main_v240 : Ref sig .tc := ⟨.hbm, 438, rfl⟩
abbrev main_c_86 : Ref sig .tc := ⟨.hbm, 439, rfl⟩
abbrev main_v241 : Ref sig .tc := ⟨.hbm, 440, rfl⟩
abbrev main_c_87 : Ref sig .tc := ⟨.hbm, 441, rfl⟩
abbrev main_call22_v0 : Ref sig .tc := ⟨.hbm, 442, rfl⟩
abbrev main_call22_v1 : Ref sig .tc := ⟨.hbm, 443, rfl⟩
abbrev main_v242 : Ref sig .tc := ⟨.hbm, 444, rfl⟩
abbrev main_c_88 : Ref sig .tc := ⟨.hbm, 445, rfl⟩
abbrev main_v243 : Ref sig .tc := ⟨.hbm, 446, rfl⟩
abbrev main_v244 : Ref sig .tc := ⟨.hbm, 447, rfl⟩
abbrev main_c_89 : Ref sig .tc := ⟨.hbm, 448, rfl⟩
abbrev main_call23_v0 : Ref sig .tc := ⟨.hbm, 449, rfl⟩
abbrev main_call23_v1 : Ref sig .tc := ⟨.hbm, 450, rfl⟩
abbrev main_v245 : Ref sig .tc := ⟨.hbm, 451, rfl⟩
abbrev main_c_90 : Ref sig .tc := ⟨.hbm, 452, rfl⟩
abbrev main_v246 : Ref sig .tc := ⟨.hbm, 453, rfl⟩
abbrev main_v247 : Ref sig .tc := ⟨.hbm, 454, rfl⟩
abbrev main_c_91 : Ref sig .tc := ⟨.hbm, 455, rfl⟩
abbrev main_v248 : Ref sig .tc := ⟨.hbm, 456, rfl⟩
abbrev main_v249 : Ref sig .tc := ⟨.hbm, 457, rfl⟩
abbrev main_v250 : Ref sig .tc := ⟨.hbm, 458, rfl⟩
abbrev main_v251 : Ref sig .tc := ⟨.hbm, 459, rfl⟩
abbrev main_v252 : Ref sig .tc := ⟨.hbm, 460, rfl⟩
abbrev main_c_92 : Ref sig .tc := ⟨.hbm, 461, rfl⟩
abbrev main_v253 : Ref sig .tc := ⟨.hbm, 462, rfl⟩
abbrev main_v254 : Ref sig .tc := ⟨.hbm, 463, rfl⟩
abbrev main_c_93 : Ref sig .tc := ⟨.hbm, 464, rfl⟩
abbrev main_v255 : Ref sig .tc := ⟨.hbm, 465, rfl⟩
abbrev main_v256 : Ref sig .tc := ⟨.hbm, 466, rfl⟩
abbrev main_v257 : Ref sig .tc := ⟨.hbm, 467, rfl⟩
abbrev main_v258 : Ref sig .tc := ⟨.hbm, 468, rfl⟩
abbrev main_v259 : Ref sig .tc := ⟨.hbm, 469, rfl⟩
abbrev main_c_94 : Ref sig .tc := ⟨.hbm, 470, rfl⟩
abbrev main_call24_v0 : Ref sig .tc := ⟨.hbm, 471, rfl⟩
abbrev main_call24_v1 : Ref sig .tc := ⟨.hbm, 472, rfl⟩
abbrev main_v260 : Ref sig .tc := ⟨.hbm, 473, rfl⟩
abbrev main_call25_v0 : Ref sig .tc := ⟨.hbm, 474, rfl⟩
abbrev main_call25_v1_0 : Ref sig .tc := ⟨.hbm, 475, rfl⟩
abbrev main_v261 : Ref sig .tc := ⟨.hbm, 476, rfl⟩
abbrev main_c_95 : Ref sig .tc := ⟨.hbm, 477, rfl⟩
abbrev main_v262 : Ref sig .tc := ⟨.hbm, 478, rfl⟩
abbrev main_v263 : Ref sig .tc := ⟨.hbm, 479, rfl⟩
abbrev main_c_96 : Ref sig .tc := ⟨.hbm, 480, rfl⟩
abbrev main_v264 : Ref sig .tc := ⟨.hbm, 481, rfl⟩
abbrev main_v265 : Ref sig .tc := ⟨.hbm, 482, rfl⟩
abbrev main_v266 : Ref sig .tc := ⟨.hbm, 483, rfl⟩
abbrev main_v267 : Ref sig .tc := ⟨.hbm, 484, rfl⟩
abbrev main_v268 : Ref sig .tc := ⟨.hbm, 485, rfl⟩
abbrev main_c_97 : Ref sig .tc := ⟨.hbm, 486, rfl⟩
abbrev main_v269 : Ref sig .tc := ⟨.hbm, 487, rfl⟩
abbrev main_v270 : Ref sig .tc := ⟨.hbm, 488, rfl⟩
abbrev main_v271 : Ref sig .tc := ⟨.hbm, 489, rfl⟩
abbrev main_v272 : Ref sig .tc := ⟨.hbm, 490, rfl⟩
abbrev main_v273 : Ref sig .tc := ⟨.hbm, 491, rfl⟩
abbrev main_c_98 : Ref sig .tc := ⟨.hbm, 492, rfl⟩
abbrev main_call26_v0 : Ref sig .tc := ⟨.hbm, 493, rfl⟩
abbrev main_call26_v1 : Ref sig .tc := ⟨.hbm, 494, rfl⟩
abbrev main_v274 : Ref sig .tc := ⟨.hbm, 495, rfl⟩
abbrev main_call27_c : Ref sig .tc := ⟨.hbm, 496, rfl⟩
abbrev main_call27_v0 : Ref sig .tc := ⟨.hbm, 497, rfl⟩
abbrev main_v275 : Ref sig .tc := ⟨.hbm, 498, rfl⟩
abbrev main_c_99 : Ref sig .tc := ⟨.hbm, 499, rfl⟩
abbrev main_v276 : Ref sig .tc := ⟨.hbm, 500, rfl⟩
abbrev main_v277 : Ref sig .tc := ⟨.hbm, 501, rfl⟩
abbrev main_c_100 : Ref sig .tc := ⟨.hbm, 502, rfl⟩
abbrev main_v278 : Ref sig .tc := ⟨.hbm, 503, rfl⟩
abbrev main_v279 : Ref sig .tc := ⟨.hbm, 504, rfl⟩
abbrev main_c_101 : Ref sig .tc := ⟨.hbm, 505, rfl⟩
abbrev main_v280 : Ref sig .tc := ⟨.hbm, 506, rfl⟩
abbrev main_v281 : Ref sig .tc := ⟨.hbm, 507, rfl⟩
abbrev main_v282 : Ref sig .tc := ⟨.hbm, 508, rfl⟩
abbrev main_v283 : Ref sig .tc := ⟨.hbm, 509, rfl⟩
abbrev main_v284 : Ref sig .tc := ⟨.hbm, 510, rfl⟩
abbrev main_c_102 : Ref sig .tc := ⟨.hbm, 511, rfl⟩
abbrev main_v285 : Ref sig .tc := ⟨.hbm, 512, rfl⟩
abbrev main_v286 : Ref sig .tc := ⟨.hbm, 513, rfl⟩
abbrev main_v287 : Ref sig .tc := ⟨.hbm, 514, rfl⟩
abbrev main_c_103 : Ref sig .tc := ⟨.hbm, 515, rfl⟩
abbrev main_v288 : Ref sig .tc := ⟨.hbm, 516, rfl⟩
abbrev main_v289 : Ref sig .tc := ⟨.hbm, 517, rfl⟩
abbrev main_v290 : Ref sig .tc := ⟨.hbm, 518, rfl⟩
abbrev main_c_104 : Ref sig .tc := ⟨.hbm, 519, rfl⟩
abbrev main_call28_v0 : Ref sig .tc := ⟨.hbm, 520, rfl⟩
abbrev main_call28_v1 : Ref sig .tc := ⟨.hbm, 521, rfl⟩
abbrev main_v291 : Ref sig .tc := ⟨.hbm, 522, rfl⟩
abbrev main_c_105 : Ref sig .tc := ⟨.hbm, 523, rfl⟩
abbrev main_call29_v0 : Ref sig .tc := ⟨.hbm, 524, rfl⟩
abbrev main_call29_v1 : Ref sig .tc := ⟨.hbm, 525, rfl⟩
abbrev main_v292 : Ref sig .tc := ⟨.hbm, 526, rfl⟩
abbrev main_cst_106 : Ref sig .tc := ⟨.hbm, 527, rfl⟩
abbrev main_v293 : Ref sig .tc := ⟨.hbm, 528, rfl⟩
abbrev main_v294 : Ref sig .tc := ⟨.hbm, 529, rfl⟩
abbrev main_cst_107 : Ref sig .tc := ⟨.hbm, 530, rfl⟩
abbrev main_call30_v0 : Ref sig .tc := ⟨.hbm, 531, rfl⟩
abbrev main_call30_v1 : Ref sig .tc := ⟨.hbm, 532, rfl⟩
abbrev main_call30_v2 : Ref sig .tc := ⟨.hbm, 533, rfl⟩
abbrev main_v295 : Ref sig .tc := ⟨.hbm, 534, rfl⟩
abbrev main_c_108 : Ref sig .tc := ⟨.hbm, 535, rfl⟩
abbrev main_v296 : Ref sig .tc := ⟨.hbm, 536, rfl⟩
abbrev main_v297 : Ref sig .tc := ⟨.hbm, 537, rfl⟩
abbrev main_c_109 : Ref sig .tc := ⟨.hbm, 538, rfl⟩
abbrev main_v298 : Ref sig .tc := ⟨.hbm, 539, rfl⟩
abbrev main_v299 : Ref sig .tc := ⟨.hbm, 540, rfl⟩
abbrev main_v300 : Ref sig .tc := ⟨.hbm, 541, rfl⟩
abbrev main_c_110 : Ref sig .tc := ⟨.hbm, 542, rfl⟩
abbrev main_v301 : Ref sig .tc := ⟨.hbm, 543, rfl⟩
abbrev main_v302 : Ref sig .tc := ⟨.hbm, 544, rfl⟩
abbrev main_c_111 : Ref sig .tc := ⟨.hbm, 545, rfl⟩
abbrev main_v303 : Ref sig .tc := ⟨.hbm, 546, rfl⟩
abbrev main_v304 : Ref sig .tc := ⟨.hbm, 547, rfl⟩
abbrev main_v305 : Ref sig .tc := ⟨.hbm, 548, rfl⟩
abbrev main_v306 : Ref sig .tc := ⟨.hbm, 549, rfl⟩
abbrev main_v307 : Ref sig .tc := ⟨.hbm, 550, rfl⟩
abbrev main_v308 : Ref sig .tc := ⟨.hbm, 551, rfl⟩
abbrev main_v309 : Ref sig .tc := ⟨.hbm, 552, rfl⟩
abbrev main_v310 : Ref sig .tc := ⟨.hbm, 553, rfl⟩
abbrev main_v311 : Ref sig .tc := ⟨.hbm, 554, rfl⟩
abbrev main_c_112 : Ref sig .tc := ⟨.hbm, 555, rfl⟩
abbrev main_v312 : Ref sig .tc := ⟨.hbm, 556, rfl⟩
abbrev main_v313 : Ref sig .tc := ⟨.hbm, 557, rfl⟩
abbrev main_v314 : Ref sig .tc := ⟨.hbm, 558, rfl⟩
abbrev main_v315 : Ref sig .tc := ⟨.hbm, 559, rfl⟩
abbrev main_c_113 : Ref sig .tc := ⟨.hbm, 560, rfl⟩
abbrev main_v316 : Ref sig .tc := ⟨.hbm, 561, rfl⟩
abbrev main_c_114 : Ref sig .tc := ⟨.hbm, 562, rfl⟩
abbrev main_v317 : Ref sig .tc := ⟨.hbm, 563, rfl⟩
abbrev main_v318 : Ref sig .tc := ⟨.hbm, 564, rfl⟩
abbrev main_v319 : Ref sig .tc := ⟨.hbm, 565, rfl⟩
abbrev main_c_115 : Ref sig .tc := ⟨.hbm, 566, rfl⟩
abbrev main_call31_v0 : Ref sig .tc := ⟨.hbm, 567, rfl⟩
abbrev main_call31_v1 : Ref sig .tc := ⟨.hbm, 568, rfl⟩
abbrev main_v320 : Ref sig .tc := ⟨.hbm, 569, rfl⟩
abbrev main_c_116 : Ref sig .tc := ⟨.hbm, 570, rfl⟩
abbrev main_v321 : Ref sig .tc := ⟨.hbm, 571, rfl⟩
abbrev main_v322 : Ref sig .tc := ⟨.hbm, 572, rfl⟩
abbrev main_v323 : Ref sig .tc := ⟨.hbm, 573, rfl⟩
abbrev main_c_117 : Ref sig .tc := ⟨.hbm, 574, rfl⟩
abbrev main_call32_v0 : Ref sig .tc := ⟨.hbm, 575, rfl⟩
abbrev main_call32_v1 : Ref sig .tc := ⟨.hbm, 576, rfl⟩
abbrev main_v324 : Ref sig .tc := ⟨.hbm, 577, rfl⟩
abbrev main_c_118 : Ref sig .tc := ⟨.hbm, 578, rfl⟩
abbrev main_v325 : Ref sig .tc := ⟨.hbm, 579, rfl⟩
abbrev main_v326 : Ref sig .tc := ⟨.hbm, 580, rfl⟩
abbrev main_c_119 : Ref sig .tc := ⟨.hbm, 581, rfl⟩
abbrev main_v327 : Ref sig .tc := ⟨.hbm, 582, rfl⟩
abbrev main_v328 : Ref sig .tc := ⟨.hbm, 583, rfl⟩
abbrev main_v329 : Ref sig .tc := ⟨.hbm, 584, rfl⟩
abbrev main_v330 : Ref sig .tc := ⟨.hbm, 585, rfl⟩
abbrev main_v331 : Ref sig .tc := ⟨.hbm, 586, rfl⟩
abbrev main_v332 : Ref sig .tc := ⟨.hbm, 587, rfl⟩
abbrev main_c_120 : Ref sig .tc := ⟨.hbm, 588, rfl⟩
abbrev main_v333 : Ref sig .tc := ⟨.hbm, 589, rfl⟩
abbrev main_v334 : Ref sig .tc := ⟨.hbm, 590, rfl⟩
abbrev main_c_121 : Ref sig .tc := ⟨.hbm, 591, rfl⟩
abbrev main_call33_v0 : Ref sig .tc := ⟨.hbm, 592, rfl⟩
abbrev main_call33_v1 : Ref sig .tc := ⟨.hbm, 593, rfl⟩
abbrev main_call33_v2 : Ref sig .tc := ⟨.hbm, 594, rfl⟩
abbrev main_call33_v3 : Ref sig .tc := ⟨.hbm, 595, rfl⟩
abbrev main_call33_v4 : Ref sig .tc := ⟨.hbm, 596, rfl⟩
abbrev main_call33_v5 : Ref sig .tc := ⟨.hbm, 597, rfl⟩
abbrev main_call33_v6 : Ref sig .tc := ⟨.hbm, 598, rfl⟩
abbrev main_call33_v7 : Ref sig .tc := ⟨.hbm, 599, rfl⟩
abbrev main_call33_v8 : Ref sig .tc := ⟨.hbm, 600, rfl⟩
abbrev main_call33_c : Ref sig .tc := ⟨.hbm, 601, rfl⟩
abbrev main_call33_v9 : Ref sig .tc := ⟨.hbm, 602, rfl⟩
abbrev main_call33_v10 : Ref sig .tc := ⟨.hbm, 603, rfl⟩
abbrev main_call33_v11 : Ref sig .tc := ⟨.hbm, 604, rfl⟩
abbrev main_call33_c_0 : Ref sig .tc := ⟨.hbm, 605, rfl⟩
abbrev main_call33_v12 : Ref sig .tc := ⟨.hbm, 606, rfl⟩
abbrev main_call33_v13 : Ref sig .tc := ⟨.hbm, 607, rfl⟩
abbrev main_v335 : Ref sig .tc := ⟨.hbm, 608, rfl⟩
abbrev main_c_122 : Ref sig .tc := ⟨.hbm, 609, rfl⟩
abbrev main_call34_v0 : Ref sig .tc := ⟨.hbm, 610, rfl⟩
abbrev main_call34_v1 : Ref sig .tc := ⟨.hbm, 611, rfl⟩
abbrev main_v336 : Ref sig .tc := ⟨.hbm, 612, rfl⟩
abbrev main_c_123 : Ref sig .tc := ⟨.hbm, 613, rfl⟩
abbrev main_v337 : Ref sig .tc := ⟨.hbm, 614, rfl⟩
abbrev main_v338 : Ref sig .tc := ⟨.hbm, 615, rfl⟩
abbrev main_c_124 : Ref sig .tc := ⟨.hbm, 616, rfl⟩
abbrev main_call35_v0 : Ref sig .tc := ⟨.hbm, 617, rfl⟩
abbrev main_call35_v1 : Ref sig .tc := ⟨.hbm, 618, rfl⟩
abbrev main_call35_v2 : Ref sig .tc := ⟨.hbm, 619, rfl⟩
abbrev main_call35_v3 : Ref sig .tc := ⟨.hbm, 620, rfl⟩
abbrev main_call35_v4 : Ref sig .tc := ⟨.hbm, 621, rfl⟩
abbrev main_call35_v5 : Ref sig .tc := ⟨.hbm, 622, rfl⟩
abbrev main_call35_v6 : Ref sig .tc := ⟨.hbm, 623, rfl⟩
abbrev main_call35_v7 : Ref sig .tc := ⟨.hbm, 624, rfl⟩
abbrev main_call35_v8 : Ref sig .tc := ⟨.hbm, 625, rfl⟩
abbrev main_call35_c : Ref sig .tc := ⟨.hbm, 626, rfl⟩
abbrev main_call35_v9 : Ref sig .tc := ⟨.hbm, 627, rfl⟩
abbrev main_call35_v10 : Ref sig .tc := ⟨.hbm, 628, rfl⟩
abbrev main_call35_v11 : Ref sig .tc := ⟨.hbm, 629, rfl⟩
abbrev main_call35_c_0 : Ref sig .tc := ⟨.hbm, 630, rfl⟩
abbrev main_call35_v12 : Ref sig .tc := ⟨.hbm, 631, rfl⟩
abbrev main_call35_v13 : Ref sig .tc := ⟨.hbm, 632, rfl⟩
abbrev main_v339 : Ref sig .tc := ⟨.hbm, 633, rfl⟩
abbrev main_c_125 : Ref sig .tc := ⟨.hbm, 634, rfl⟩
abbrev main_call36_v0 : Ref sig .tc := ⟨.hbm, 635, rfl⟩
abbrev main_call36_c : Ref sig .tc := ⟨.hbm, 636, rfl⟩
abbrev main_call36_v1 : Ref sig .tc := ⟨.hbm, 637, rfl⟩
abbrev main_call36_c_0 : Ref sig .tc := ⟨.hbm, 638, rfl⟩
abbrev main_call36_v2 : Ref sig .tc := ⟨.hbm, 639, rfl⟩
abbrev main_call36_v3 : Ref sig .tc := ⟨.hbm, 640, rfl⟩
abbrev main_call36_v4 : Ref sig .tc := ⟨.hbm, 641, rfl⟩
abbrev main_call36_c_1 : Ref sig .tc := ⟨.hbm, 642, rfl⟩
abbrev main_call36_v5 : Ref sig .tc := ⟨.hbm, 643, rfl⟩
abbrev main_call36_v6 : Ref sig .tc := ⟨.hbm, 644, rfl⟩
abbrev main_call36_c_2 : Ref sig .tc := ⟨.hbm, 645, rfl⟩
abbrev main_call36_v7 : Ref sig .tc := ⟨.hbm, 646, rfl⟩
abbrev main_call36_v8 : Ref sig .tc := ⟨.hbm, 647, rfl⟩
abbrev main_call36_c_3 : Ref sig .tc := ⟨.hbm, 648, rfl⟩
abbrev main_call36_v9 : Ref sig .tc := ⟨.hbm, 649, rfl⟩
abbrev main_call36_v10 : Ref sig .tc := ⟨.hbm, 650, rfl⟩
abbrev main_call36_v11 : Ref sig .tc := ⟨.hbm, 651, rfl⟩
abbrev main_call36_v12 : Ref sig .tc := ⟨.hbm, 652, rfl⟩
abbrev main_call36_v13 : Ref sig .tc := ⟨.hbm, 653, rfl⟩
abbrev main_call36_v14 : Ref sig .tc := ⟨.hbm, 654, rfl⟩
abbrev main_v340 : Ref sig .tc := ⟨.hbm, 655, rfl⟩
abbrev main_c_126 : Ref sig .tc := ⟨.hbm, 656, rfl⟩
abbrev main_call37_v0 : Ref sig .tc := ⟨.hbm, 657, rfl⟩
abbrev main_call37_v1 : Ref sig .tc := ⟨.hbm, 658, rfl⟩
abbrev main_v341 : Ref sig .tc := ⟨.hbm, 659, rfl⟩
abbrev main_c_127 : Ref sig .tc := ⟨.hbm, 660, rfl⟩
abbrev main_v342 : Ref sig .tc := ⟨.hbm, 661, rfl⟩
abbrev main_v343 : Ref sig .tc := ⟨.hbm, 662, rfl⟩
abbrev main_c_128 : Ref sig .tc := ⟨.hbm, 663, rfl⟩
abbrev main_call38_v0 : Ref sig .tc := ⟨.hbm, 664, rfl⟩
abbrev main_call38_c : Ref sig .tc := ⟨.hbm, 665, rfl⟩
abbrev main_call38_v1 : Ref sig .tc := ⟨.hbm, 666, rfl⟩
abbrev main_call38_c_0 : Ref sig .tc := ⟨.hbm, 667, rfl⟩
abbrev main_call38_v2 : Ref sig .tc := ⟨.hbm, 668, rfl⟩
abbrev main_call38_v3 : Ref sig .tc := ⟨.hbm, 669, rfl⟩
abbrev main_call38_v4 : Ref sig .tc := ⟨.hbm, 670, rfl⟩
abbrev main_call38_c_1 : Ref sig .tc := ⟨.hbm, 671, rfl⟩
abbrev main_call38_v5 : Ref sig .tc := ⟨.hbm, 672, rfl⟩
abbrev main_call38_v6 : Ref sig .tc := ⟨.hbm, 673, rfl⟩
abbrev main_call38_c_2 : Ref sig .tc := ⟨.hbm, 674, rfl⟩
abbrev main_call38_v7 : Ref sig .tc := ⟨.hbm, 675, rfl⟩
abbrev main_call38_v8 : Ref sig .tc := ⟨.hbm, 676, rfl⟩
abbrev main_call38_c_3 : Ref sig .tc := ⟨.hbm, 677, rfl⟩
abbrev main_call38_v9 : Ref sig .tc := ⟨.hbm, 678, rfl⟩
abbrev main_call38_v10 : Ref sig .tc := ⟨.hbm, 679, rfl⟩
abbrev main_call38_v11 : Ref sig .tc := ⟨.hbm, 680, rfl⟩
abbrev main_call38_v12 : Ref sig .tc := ⟨.hbm, 681, rfl⟩
abbrev main_call38_v13 : Ref sig .tc := ⟨.hbm, 682, rfl⟩
abbrev main_call38_v14 : Ref sig .tc := ⟨.hbm, 683, rfl⟩
abbrev main_v344 : Ref sig .tc := ⟨.hbm, 684, rfl⟩
abbrev main_c_129 : Ref sig .tc := ⟨.hbm, 685, rfl⟩
abbrev main_call39_v0 : Ref sig .tc := ⟨.hbm, 686, rfl⟩
abbrev main_call39_v1 : Ref sig .tc := ⟨.hbm, 687, rfl⟩
abbrev main_v345 : Ref sig .tc := ⟨.hbm, 688, rfl⟩
abbrev main_v346 : Ref sig .tc := ⟨.hbm, 689, rfl⟩
abbrev main_v347 : Ref sig .tc := ⟨.hbm, 690, rfl⟩
abbrev main_v348 : Ref sig .tc := ⟨.hbm, 691, rfl⟩
abbrev main_v349 : Ref sig .tc := ⟨.hbm, 692, rfl⟩
abbrev main_c_130 : Ref sig .tc := ⟨.hbm, 693, rfl⟩
abbrev main_v350 : Ref sig .tc := ⟨.hbm, 694, rfl⟩
abbrev main_v351 : Ref sig .tc := ⟨.hbm, 695, rfl⟩
abbrev main_v352 : Ref sig .tc := ⟨.hbm, 696, rfl⟩
abbrev main_v353 : Ref sig .tc := ⟨.hbm, 697, rfl⟩
abbrev main_c_131 : Ref sig .tc := ⟨.hbm, 698, rfl⟩
abbrev main_v354 : Ref sig .tc := ⟨.hbm, 699, rfl⟩
abbrev main_c_132 : Ref sig .tc := ⟨.hbm, 700, rfl⟩
abbrev main_v355 : Ref sig .tc := ⟨.hbm, 701, rfl⟩
abbrev main_v356 : Ref sig .tc := ⟨.hbm, 702, rfl⟩
abbrev main_cst_133 : Ref sig .tc := ⟨.hbm, 703, rfl⟩
abbrev main_v357 : Ref sig .tc := ⟨.hbm, 704, rfl⟩
abbrev main_c_134 : Ref sig .tc := ⟨.hbm, 705, rfl⟩
abbrev main_v358 : Ref sig .tc := ⟨.hbm, 706, rfl⟩
abbrev main_c_135 : Ref sig .tc := ⟨.hbm, 707, rfl⟩
abbrev main_v359 : Ref sig .tc := ⟨.hbm, 708, rfl⟩
abbrev main_v360 : Ref sig .tc := ⟨.hbm, 709, rfl⟩
abbrev main_cst_136 : Ref sig .tc := ⟨.hbm, 710, rfl⟩
abbrev main_v361 : Ref sig .tc := ⟨.hbm, 711, rfl⟩
abbrev main_c_137 : Ref sig .tc := ⟨.hbm, 712, rfl⟩
abbrev main_v362 : Ref sig .tc := ⟨.hbm, 713, rfl⟩
abbrev main_c_138 : Ref sig .tc := ⟨.hbm, 714, rfl⟩
abbrev main_v363 : Ref sig .tc := ⟨.hbm, 715, rfl⟩
abbrev main_v364 : Ref sig .tc := ⟨.hbm, 716, rfl⟩
abbrev main_cst_139 : Ref sig .tc := ⟨.hbm, 717, rfl⟩
abbrev main_v365 : Ref sig .tc := ⟨.hbm, 718, rfl⟩
abbrev main_v366 : Ref sig .tc := ⟨.hbm, 719, rfl⟩
abbrev main_v367 : Ref sig .tc := ⟨.hbm, 720, rfl⟩
abbrev main_v368 : Ref sig .tc := ⟨.hbm, 721, rfl⟩
abbrev main_v369 : Ref sig .tc := ⟨.hbm, 722, rfl⟩
abbrev main_v370 : Ref sig .tc := ⟨.hbm, 723, rfl⟩
abbrev main_v371 : Ref sig .tc := ⟨.hbm, 724, rfl⟩
abbrev main_v372 : Ref sig .tc := ⟨.hbm, 725, rfl⟩
abbrev main_v373 : Ref sig .tc := ⟨.hbm, 726, rfl⟩
abbrev main_v374 : Ref sig .tc := ⟨.hbm, 727, rfl⟩
abbrev main_c_140 : Ref sig .tc := ⟨.hbm, 728, rfl⟩
abbrev main_v375 : Ref sig .tc := ⟨.hbm, 729, rfl⟩
abbrev main_v376 : Ref sig .tc := ⟨.hbm, 730, rfl⟩
abbrev main_v377 : Ref sig .tc := ⟨.hbm, 731, rfl⟩
abbrev main_v378 : Ref sig .tc := ⟨.hbm, 732, rfl⟩
abbrev main_v379 : Ref sig .tc := ⟨.hbm, 733, rfl⟩
abbrev main_v380 : Ref sig .tc := ⟨.hbm, 734, rfl⟩
abbrev main_c_141 : Ref sig .tc := ⟨.hbm, 735, rfl⟩
abbrev main_v381 : Ref sig .tc := ⟨.hbm, 736, rfl⟩
abbrev main_v382 : Ref sig .tc := ⟨.hbm, 737, rfl⟩
abbrev main_v383 : Ref sig .tc := ⟨.hbm, 738, rfl⟩
abbrev main_c_142 : Ref sig .tc := ⟨.hbm, 739, rfl⟩
abbrev main_v384 : Ref sig .tc := ⟨.hbm, 740, rfl⟩
abbrev main_v385 : Ref sig .tc := ⟨.hbm, 741, rfl⟩
abbrev main_v386 : Ref sig .tc := ⟨.hbm, 742, rfl⟩
abbrev main_v387 : Ref sig .tc := ⟨.hbm, 743, rfl⟩
abbrev main_v388 : Ref sig .tc := ⟨.hbm, 744, rfl⟩
abbrev main_c_143 : Ref sig .tc := ⟨.hbm, 745, rfl⟩
abbrev main_v389 : Ref sig .tc := ⟨.hbm, 746, rfl⟩
abbrev main_v390 : Ref sig .tc := ⟨.hbm, 747, rfl⟩
abbrev main_v391 : Ref sig .tc := ⟨.hbm, 748, rfl⟩
abbrev main_v392 : Ref sig .tc := ⟨.hbm, 749, rfl⟩
abbrev main_v393 : Ref sig .tc := ⟨.hbm, 750, rfl⟩
abbrev main_c_144 : Ref sig .tc := ⟨.hbm, 751, rfl⟩
abbrev main_call40_v0 : Ref sig .tc := ⟨.hbm, 752, rfl⟩
abbrev main_call40_v1 : Ref sig .tc := ⟨.hbm, 753, rfl⟩
abbrev main_v394 : Ref sig .tc := ⟨.hbm, 754, rfl⟩
abbrev main_v395 : Ref sig .tc := ⟨.hbm, 755, rfl⟩
abbrev main_c_145 : Ref sig .tc := ⟨.hbm, 756, rfl⟩
abbrev main_v396 : Ref sig .tc := ⟨.hbm, 757, rfl⟩
abbrev main_c_146 : Ref sig .tc := ⟨.hbm, 758, rfl⟩
abbrev main_v397 : Ref sig .tc := ⟨.hbm, 759, rfl⟩
abbrev main_v398 : Ref sig .tc := ⟨.hbm, 760, rfl⟩
abbrev main_c_147 : Ref sig .tc := ⟨.hbm, 761, rfl⟩
abbrev main_v399 : Ref sig .tc := ⟨.hbm, 762, rfl⟩
abbrev main_v400 : Ref sig .tc := ⟨.hbm, 763, rfl⟩
abbrev main_v401 : Ref sig .tc := ⟨.hbm, 764, rfl⟩
abbrev main_v402 : Ref sig .tc := ⟨.hbm, 765, rfl⟩
abbrev main_v403 : Ref sig .tc := ⟨.hbm, 766, rfl⟩
abbrev main_c_148 : Ref sig .tc := ⟨.hbm, 767, rfl⟩
abbrev main_v404 : Ref sig .tc := ⟨.hbm, 768, rfl⟩
abbrev main_v405 : Ref sig .tc := ⟨.hbm, 769, rfl⟩
abbrev main_c_149 : Ref sig .tc := ⟨.hbm, 770, rfl⟩
abbrev main_v406 : Ref sig .tc := ⟨.hbm, 771, rfl⟩
abbrev main_v407 : Ref sig .tc := ⟨.hbm, 772, rfl⟩
abbrev main_v408 : Ref sig .tc := ⟨.hbm, 773, rfl⟩
abbrev main_v409 : Ref sig .tc := ⟨.hbm, 774, rfl⟩
abbrev main_v410 : Ref sig .tc := ⟨.hbm, 775, rfl⟩
abbrev main_v411 : Ref sig .tc := ⟨.hbm, 776, rfl⟩
abbrev main_v412 : Ref sig .tc := ⟨.hbm, 777, rfl⟩
abbrev main_v413 : Ref sig .tc := ⟨.hbm, 778, rfl⟩
abbrev main_call41_call0_c : Ref sig .tc := ⟨.hbm, 779, rfl⟩
abbrev main_call41_call0_v0 : Ref sig .tc := ⟨.hbm, 780, rfl⟩
abbrev main_v414 : Ref sig .tc := ⟨.hbm, 781, rfl⟩
abbrev main_c_150 : Ref sig .tc := ⟨.hbm, 782, rfl⟩
abbrev main_v415 : Ref sig .tc := ⟨.hbm, 783, rfl⟩
abbrev main_v416 : Ref sig .tc := ⟨.hbm, 784, rfl⟩
abbrev main_c_151 : Ref sig .tc := ⟨.hbm, 785, rfl⟩
abbrev main_v417 : Ref sig .tc := ⟨.hbm, 786, rfl⟩
abbrev main_c_152 : Ref sig .tc := ⟨.hbm, 787, rfl⟩
abbrev main_call42_v0 : Ref sig .tc := ⟨.hbm, 788, rfl⟩
abbrev main_call42_v1 : Ref sig .tc := ⟨.hbm, 789, rfl⟩
abbrev main_v418 : Ref sig .tc := ⟨.hbm, 790, rfl⟩
abbrev main_c_153 : Ref sig .tc := ⟨.hbm, 791, rfl⟩
abbrev main_v419 : Ref sig .tc := ⟨.hbm, 792, rfl⟩
abbrev main_v420 : Ref sig .tc := ⟨.hbm, 793, rfl⟩
abbrev main_c_154 : Ref sig .tc := ⟨.hbm, 794, rfl⟩
abbrev main_call43_v0 : Ref sig .tc := ⟨.hbm, 795, rfl⟩
abbrev main_call43_v1 : Ref sig .tc := ⟨.hbm, 796, rfl⟩
abbrev main_v421 : Ref sig .tc := ⟨.hbm, 797, rfl⟩
abbrev main_c_155 : Ref sig .tc := ⟨.hbm, 798, rfl⟩
abbrev main_v422 : Ref sig .tc := ⟨.hbm, 799, rfl⟩
abbrev main_v423 : Ref sig .tc := ⟨.hbm, 800, rfl⟩
abbrev main_c_156 : Ref sig .tc := ⟨.hbm, 801, rfl⟩
abbrev main_v424 : Ref sig .tc := ⟨.hbm, 802, rfl⟩
abbrev main_v425 : Ref sig .tc := ⟨.hbm, 803, rfl⟩
abbrev main_v426 : Ref sig .tc := ⟨.hbm, 804, rfl⟩
abbrev main_v427 : Ref sig .tc := ⟨.hbm, 805, rfl⟩
abbrev main_v428 : Ref sig .tc := ⟨.hbm, 806, rfl⟩
abbrev main_c_157 : Ref sig .tc := ⟨.hbm, 807, rfl⟩
abbrev main_v429 : Ref sig .tc := ⟨.hbm, 808, rfl⟩
abbrev main_v430 : Ref sig .tc := ⟨.hbm, 809, rfl⟩
abbrev main_c_158 : Ref sig .tc := ⟨.hbm, 810, rfl⟩
abbrev main_v431 : Ref sig .tc := ⟨.hbm, 811, rfl⟩
abbrev main_v432 : Ref sig .tc := ⟨.hbm, 812, rfl⟩
abbrev main_v433 : Ref sig .tc := ⟨.hbm, 813, rfl⟩
abbrev main_v434 : Ref sig .tc := ⟨.hbm, 814, rfl⟩
abbrev main_v435 : Ref sig .tc := ⟨.hbm, 815, rfl⟩
abbrev main_c_159 : Ref sig .tc := ⟨.hbm, 816, rfl⟩
abbrev main_call44_v0 : Ref sig .tc := ⟨.hbm, 817, rfl⟩
abbrev main_call44_v1 : Ref sig .tc := ⟨.hbm, 818, rfl⟩
abbrev main_v436 : Ref sig .tc := ⟨.hbm, 819, rfl⟩
abbrev main_call45_v0 : Ref sig .tc := ⟨.hbm, 820, rfl⟩
abbrev main_call45_v1_0 : Ref sig .tc := ⟨.hbm, 821, rfl⟩
abbrev main_v437 : Ref sig .tc := ⟨.hbm, 822, rfl⟩
abbrev main_c_160 : Ref sig .tc := ⟨.hbm, 823, rfl⟩
abbrev main_v438 : Ref sig .tc := ⟨.hbm, 824, rfl⟩
abbrev main_v439 : Ref sig .tc := ⟨.hbm, 825, rfl⟩
abbrev main_c_161 : Ref sig .tc := ⟨.hbm, 826, rfl⟩
abbrev main_v440 : Ref sig .tc := ⟨.hbm, 827, rfl⟩
abbrev main_v441 : Ref sig .tc := ⟨.hbm, 828, rfl⟩
abbrev main_v442 : Ref sig .tc := ⟨.hbm, 829, rfl⟩
abbrev main_v443 : Ref sig .tc := ⟨.hbm, 830, rfl⟩
abbrev main_v444 : Ref sig .tc := ⟨.hbm, 831, rfl⟩
abbrev main_c_162 : Ref sig .tc := ⟨.hbm, 832, rfl⟩
abbrev main_v445 : Ref sig .tc := ⟨.hbm, 833, rfl⟩
abbrev main_v446 : Ref sig .tc := ⟨.hbm, 834, rfl⟩
abbrev main_v447 : Ref sig .tc := ⟨.hbm, 835, rfl⟩
abbrev main_v448 : Ref sig .tc := ⟨.hbm, 836, rfl⟩
abbrev main_v449 : Ref sig .tc := ⟨.hbm, 837, rfl⟩
abbrev main_c_163 : Ref sig .tc := ⟨.hbm, 838, rfl⟩
abbrev main_call46_v0 : Ref sig .tc := ⟨.hbm, 839, rfl⟩
abbrev main_call46_v1 : Ref sig .tc := ⟨.hbm, 840, rfl⟩
abbrev main_v450 : Ref sig .tc := ⟨.hbm, 841, rfl⟩
abbrev main_call47_c : Ref sig .tc := ⟨.hbm, 842, rfl⟩
abbrev main_call47_v0 : Ref sig .tc := ⟨.hbm, 843, rfl⟩
abbrev main_v451 : Ref sig .tc := ⟨.hbm, 844, rfl⟩
abbrev main_c_164 : Ref sig .tc := ⟨.hbm, 845, rfl⟩
abbrev main_v452 : Ref sig .tc := ⟨.hbm, 846, rfl⟩
abbrev main_v453 : Ref sig .tc := ⟨.hbm, 847, rfl⟩
abbrev main_c_165 : Ref sig .tc := ⟨.hbm, 848, rfl⟩
abbrev main_v454 : Ref sig .tc := ⟨.hbm, 849, rfl⟩
abbrev main_v455 : Ref sig .tc := ⟨.hbm, 850, rfl⟩
abbrev main_c_166 : Ref sig .tc := ⟨.hbm, 851, rfl⟩
abbrev main_v456 : Ref sig .tc := ⟨.hbm, 852, rfl⟩
abbrev main_v457 : Ref sig .tc := ⟨.hbm, 853, rfl⟩
abbrev main_v458 : Ref sig .tc := ⟨.hbm, 854, rfl⟩
abbrev main_v459 : Ref sig .tc := ⟨.hbm, 855, rfl⟩
abbrev main_v460 : Ref sig .tc := ⟨.hbm, 856, rfl⟩
abbrev main_c_167 : Ref sig .tc := ⟨.hbm, 857, rfl⟩
abbrev main_v461 : Ref sig .tc := ⟨.hbm, 858, rfl⟩
abbrev main_v462 : Ref sig .tc := ⟨.hbm, 859, rfl⟩
abbrev main_v463 : Ref sig .tc := ⟨.hbm, 860, rfl⟩
abbrev main_c_168 : Ref sig .tc := ⟨.hbm, 861, rfl⟩
abbrev main_v464 : Ref sig .tc := ⟨.hbm, 862, rfl⟩
abbrev main_v465 : Ref sig .tc := ⟨.hbm, 863, rfl⟩
abbrev main_v466 : Ref sig .tc := ⟨.hbm, 864, rfl⟩
abbrev main_c_169 : Ref sig .tc := ⟨.hbm, 865, rfl⟩
abbrev main_call48_v0 : Ref sig .tc := ⟨.hbm, 866, rfl⟩
abbrev main_call48_v1 : Ref sig .tc := ⟨.hbm, 867, rfl⟩
abbrev main_v467 : Ref sig .tc := ⟨.hbm, 868, rfl⟩
abbrev main_c_170 : Ref sig .tc := ⟨.hbm, 869, rfl⟩
abbrev main_call49_v0 : Ref sig .tc := ⟨.hbm, 870, rfl⟩
abbrev main_call49_v1 : Ref sig .tc := ⟨.hbm, 871, rfl⟩
abbrev main_v468 : Ref sig .tc := ⟨.hbm, 872, rfl⟩
abbrev main_cst_171 : Ref sig .tc := ⟨.hbm, 873, rfl⟩
abbrev main_v469 : Ref sig .tc := ⟨.hbm, 874, rfl⟩
abbrev main_v470 : Ref sig .tc := ⟨.hbm, 875, rfl⟩
abbrev main_cst_172 : Ref sig .tc := ⟨.hbm, 876, rfl⟩
abbrev main_call50_v0 : Ref sig .tc := ⟨.hbm, 877, rfl⟩
abbrev main_call50_v1 : Ref sig .tc := ⟨.hbm, 878, rfl⟩
abbrev main_call50_v2 : Ref sig .tc := ⟨.hbm, 879, rfl⟩
abbrev main_v471 : Ref sig .tc := ⟨.hbm, 880, rfl⟩
abbrev main_c_173 : Ref sig .tc := ⟨.hbm, 881, rfl⟩
abbrev main_v472 : Ref sig .tc := ⟨.hbm, 882, rfl⟩
abbrev main_v473 : Ref sig .tc := ⟨.hbm, 883, rfl⟩
abbrev main_c_174 : Ref sig .tc := ⟨.hbm, 884, rfl⟩
abbrev main_v474 : Ref sig .tc := ⟨.hbm, 885, rfl⟩
abbrev main_v475 : Ref sig .tc := ⟨.hbm, 886, rfl⟩
abbrev main_v476 : Ref sig .tc := ⟨.hbm, 887, rfl⟩
abbrev main_c_175 : Ref sig .tc := ⟨.hbm, 888, rfl⟩
abbrev main_v477 : Ref sig .tc := ⟨.hbm, 889, rfl⟩
abbrev main_v478 : Ref sig .tc := ⟨.hbm, 890, rfl⟩
abbrev main_c_176 : Ref sig .tc := ⟨.hbm, 891, rfl⟩
abbrev main_v479 : Ref sig .tc := ⟨.hbm, 892, rfl⟩
abbrev main_v480 : Ref sig .tc := ⟨.hbm, 893, rfl⟩
abbrev main_v481 : Ref sig .tc := ⟨.hbm, 894, rfl⟩
abbrev main_v482 : Ref sig .tc := ⟨.hbm, 895, rfl⟩
abbrev main_v483 : Ref sig .tc := ⟨.hbm, 896, rfl⟩
abbrev main_v484 : Ref sig .tc := ⟨.hbm, 897, rfl⟩
abbrev main_v485 : Ref sig .tc := ⟨.hbm, 898, rfl⟩
abbrev main_v486 : Ref sig .tc := ⟨.hbm, 899, rfl⟩
abbrev main_v487 : Ref sig .tc := ⟨.hbm, 900, rfl⟩
abbrev main_c_177 : Ref sig .tc := ⟨.hbm, 901, rfl⟩
abbrev main_v488 : Ref sig .tc := ⟨.hbm, 902, rfl⟩
abbrev main_v489 : Ref sig .tc := ⟨.hbm, 903, rfl⟩
abbrev main_v490 : Ref sig .tc := ⟨.hbm, 904, rfl⟩
abbrev main_v491 : Ref sig .tc := ⟨.hbm, 905, rfl⟩
abbrev main_c_178 : Ref sig .tc := ⟨.hbm, 906, rfl⟩
abbrev main_v492 : Ref sig .tc := ⟨.hbm, 907, rfl⟩
abbrev main_c_179 : Ref sig .tc := ⟨.hbm, 908, rfl⟩
abbrev main_v493 : Ref sig .tc := ⟨.hbm, 909, rfl⟩
abbrev main_v494 : Ref sig .tc := ⟨.hbm, 910, rfl⟩
abbrev main_v495 : Ref sig .tc := ⟨.hbm, 911, rfl⟩
abbrev main_c_180 : Ref sig .tc := ⟨.hbm, 912, rfl⟩
abbrev main_call51_v0 : Ref sig .tc := ⟨.hbm, 913, rfl⟩
abbrev main_call51_v1 : Ref sig .tc := ⟨.hbm, 914, rfl⟩
abbrev main_v496 : Ref sig .tc := ⟨.hbm, 915, rfl⟩
abbrev main_c_181 : Ref sig .tc := ⟨.hbm, 916, rfl⟩
abbrev main_v497 : Ref sig .tc := ⟨.hbm, 917, rfl⟩
abbrev main_v498 : Ref sig .tc := ⟨.hbm, 918, rfl⟩
abbrev main_v499 : Ref sig .tc := ⟨.hbm, 919, rfl⟩
abbrev main_c_182 : Ref sig .tc := ⟨.hbm, 920, rfl⟩
abbrev main_call52_v0 : Ref sig .tc := ⟨.hbm, 921, rfl⟩
abbrev main_call52_v1 : Ref sig .tc := ⟨.hbm, 922, rfl⟩
abbrev main_v500 : Ref sig .tc := ⟨.hbm, 923, rfl⟩
abbrev main_c_183 : Ref sig .tc := ⟨.hbm, 924, rfl⟩
abbrev main_v501 : Ref sig .tc := ⟨.hbm, 925, rfl⟩
abbrev main_v502 : Ref sig .tc := ⟨.hbm, 926, rfl⟩
abbrev main_c_184 : Ref sig .tc := ⟨.hbm, 927, rfl⟩
abbrev main_v503 : Ref sig .tc := ⟨.hbm, 928, rfl⟩
abbrev main_v504 : Ref sig .tc := ⟨.hbm, 929, rfl⟩
abbrev main_v505 : Ref sig .tc := ⟨.hbm, 930, rfl⟩
abbrev main_v506 : Ref sig .tc := ⟨.hbm, 931, rfl⟩
abbrev main_v507 : Ref sig .tc := ⟨.hbm, 932, rfl⟩
abbrev main_v508 : Ref sig .tc := ⟨.hbm, 933, rfl⟩
abbrev main_c_185 : Ref sig .tc := ⟨.hbm, 934, rfl⟩
abbrev main_v509 : Ref sig .tc := ⟨.hbm, 935, rfl⟩
abbrev main_v510 : Ref sig .tc := ⟨.hbm, 936, rfl⟩
abbrev main_c_186 : Ref sig .tc := ⟨.hbm, 937, rfl⟩
abbrev main_call53_v0 : Ref sig .tc := ⟨.hbm, 938, rfl⟩
abbrev main_call53_v1 : Ref sig .tc := ⟨.hbm, 939, rfl⟩
abbrev main_call53_v2 : Ref sig .tc := ⟨.hbm, 940, rfl⟩
abbrev main_call53_v3 : Ref sig .tc := ⟨.hbm, 941, rfl⟩
abbrev main_call53_v4 : Ref sig .tc := ⟨.hbm, 942, rfl⟩
abbrev main_call53_v5 : Ref sig .tc := ⟨.hbm, 943, rfl⟩
abbrev main_call53_v6 : Ref sig .tc := ⟨.hbm, 944, rfl⟩
abbrev main_call53_v7 : Ref sig .tc := ⟨.hbm, 945, rfl⟩
abbrev main_call53_v8 : Ref sig .tc := ⟨.hbm, 946, rfl⟩
abbrev main_call53_c : Ref sig .tc := ⟨.hbm, 947, rfl⟩
abbrev main_call53_v9 : Ref sig .tc := ⟨.hbm, 948, rfl⟩
abbrev main_call53_v10 : Ref sig .tc := ⟨.hbm, 949, rfl⟩
abbrev main_call53_v11 : Ref sig .tc := ⟨.hbm, 950, rfl⟩
abbrev main_call53_c_0 : Ref sig .tc := ⟨.hbm, 951, rfl⟩
abbrev main_call53_v12 : Ref sig .tc := ⟨.hbm, 952, rfl⟩
abbrev main_call53_v13 : Ref sig .tc := ⟨.hbm, 953, rfl⟩
abbrev main_v511 : Ref sig .tc := ⟨.hbm, 954, rfl⟩
abbrev main_c_187 : Ref sig .tc := ⟨.hbm, 955, rfl⟩
abbrev main_call54_v0 : Ref sig .tc := ⟨.hbm, 956, rfl⟩
abbrev main_call54_v1 : Ref sig .tc := ⟨.hbm, 957, rfl⟩
abbrev main_v512 : Ref sig .tc := ⟨.hbm, 958, rfl⟩
abbrev main_c_188 : Ref sig .tc := ⟨.hbm, 959, rfl⟩
abbrev main_v513 : Ref sig .tc := ⟨.hbm, 960, rfl⟩
abbrev main_v514 : Ref sig .tc := ⟨.hbm, 961, rfl⟩
abbrev main_c_189 : Ref sig .tc := ⟨.hbm, 962, rfl⟩
abbrev main_call55_v0 : Ref sig .tc := ⟨.hbm, 963, rfl⟩
abbrev main_call55_v1 : Ref sig .tc := ⟨.hbm, 964, rfl⟩
abbrev main_call55_v2 : Ref sig .tc := ⟨.hbm, 965, rfl⟩
abbrev main_call55_v3 : Ref sig .tc := ⟨.hbm, 966, rfl⟩
abbrev main_call55_v4 : Ref sig .tc := ⟨.hbm, 967, rfl⟩
abbrev main_call55_v5 : Ref sig .tc := ⟨.hbm, 968, rfl⟩
abbrev main_call55_v6 : Ref sig .tc := ⟨.hbm, 969, rfl⟩
abbrev main_call55_v7 : Ref sig .tc := ⟨.hbm, 970, rfl⟩
abbrev main_call55_v8 : Ref sig .tc := ⟨.hbm, 971, rfl⟩
abbrev main_call55_c : Ref sig .tc := ⟨.hbm, 972, rfl⟩
abbrev main_call55_v9 : Ref sig .tc := ⟨.hbm, 973, rfl⟩
abbrev main_call55_v10 : Ref sig .tc := ⟨.hbm, 974, rfl⟩
abbrev main_call55_v11 : Ref sig .tc := ⟨.hbm, 975, rfl⟩
abbrev main_call55_c_0 : Ref sig .tc := ⟨.hbm, 976, rfl⟩
abbrev main_call55_v12 : Ref sig .tc := ⟨.hbm, 977, rfl⟩
abbrev main_call55_v13 : Ref sig .tc := ⟨.hbm, 978, rfl⟩
abbrev main_v515 : Ref sig .tc := ⟨.hbm, 979, rfl⟩
abbrev main_c_190 : Ref sig .tc := ⟨.hbm, 980, rfl⟩
abbrev main_call56_v0 : Ref sig .tc := ⟨.hbm, 981, rfl⟩
abbrev main_call56_c : Ref sig .tc := ⟨.hbm, 982, rfl⟩
abbrev main_call56_v1 : Ref sig .tc := ⟨.hbm, 983, rfl⟩
abbrev main_call56_c_0 : Ref sig .tc := ⟨.hbm, 984, rfl⟩
abbrev main_call56_v2 : Ref sig .tc := ⟨.hbm, 985, rfl⟩
abbrev main_call56_v3 : Ref sig .tc := ⟨.hbm, 986, rfl⟩
abbrev main_call56_v4 : Ref sig .tc := ⟨.hbm, 987, rfl⟩
abbrev main_call56_c_1 : Ref sig .tc := ⟨.hbm, 988, rfl⟩
abbrev main_call56_v5 : Ref sig .tc := ⟨.hbm, 989, rfl⟩
abbrev main_call56_v6 : Ref sig .tc := ⟨.hbm, 990, rfl⟩
abbrev main_call56_c_2 : Ref sig .tc := ⟨.hbm, 991, rfl⟩
abbrev main_call56_v7 : Ref sig .tc := ⟨.hbm, 992, rfl⟩
abbrev main_call56_v8 : Ref sig .tc := ⟨.hbm, 993, rfl⟩
abbrev main_call56_c_3 : Ref sig .tc := ⟨.hbm, 994, rfl⟩
abbrev main_call56_v9 : Ref sig .tc := ⟨.hbm, 995, rfl⟩
abbrev main_call56_v10 : Ref sig .tc := ⟨.hbm, 996, rfl⟩
abbrev main_call56_v11 : Ref sig .tc := ⟨.hbm, 997, rfl⟩
abbrev main_call56_v12 : Ref sig .tc := ⟨.hbm, 998, rfl⟩
abbrev main_call56_v13 : Ref sig .tc := ⟨.hbm, 999, rfl⟩
abbrev main_call56_v14 : Ref sig .tc := ⟨.hbm, 1000, rfl⟩
abbrev main_v516 : Ref sig .tc := ⟨.hbm, 1001, rfl⟩
abbrev main_c_191 : Ref sig .tc := ⟨.hbm, 1002, rfl⟩
abbrev main_call57_v0 : Ref sig .tc := ⟨.hbm, 1003, rfl⟩
abbrev main_call57_v1 : Ref sig .tc := ⟨.hbm, 1004, rfl⟩
abbrev main_v517 : Ref sig .tc := ⟨.hbm, 1005, rfl⟩
abbrev main_c_192 : Ref sig .tc := ⟨.hbm, 1006, rfl⟩
abbrev main_v518 : Ref sig .tc := ⟨.hbm, 1007, rfl⟩
abbrev main_v519 : Ref sig .tc := ⟨.hbm, 1008, rfl⟩
abbrev main_c_193 : Ref sig .tc := ⟨.hbm, 1009, rfl⟩
abbrev main_call58_v0 : Ref sig .tc := ⟨.hbm, 1010, rfl⟩
abbrev main_call58_c : Ref sig .tc := ⟨.hbm, 1011, rfl⟩
abbrev main_call58_v1 : Ref sig .tc := ⟨.hbm, 1012, rfl⟩
abbrev main_call58_c_0 : Ref sig .tc := ⟨.hbm, 1013, rfl⟩
abbrev main_call58_v2 : Ref sig .tc := ⟨.hbm, 1014, rfl⟩
abbrev main_call58_v3 : Ref sig .tc := ⟨.hbm, 1015, rfl⟩
abbrev main_call58_v4 : Ref sig .tc := ⟨.hbm, 1016, rfl⟩
abbrev main_call58_c_1 : Ref sig .tc := ⟨.hbm, 1017, rfl⟩
abbrev main_call58_v5 : Ref sig .tc := ⟨.hbm, 1018, rfl⟩
abbrev main_call58_v6 : Ref sig .tc := ⟨.hbm, 1019, rfl⟩
abbrev main_call58_c_2 : Ref sig .tc := ⟨.hbm, 1020, rfl⟩
abbrev main_call58_v7 : Ref sig .tc := ⟨.hbm, 1021, rfl⟩
abbrev main_call58_v8 : Ref sig .tc := ⟨.hbm, 1022, rfl⟩
abbrev main_call58_c_3 : Ref sig .tc := ⟨.hbm, 1023, rfl⟩
abbrev main_call58_v9 : Ref sig .tc := ⟨.hbm, 1024, rfl⟩
abbrev main_call58_v10 : Ref sig .tc := ⟨.hbm, 1025, rfl⟩
abbrev main_call58_v11 : Ref sig .tc := ⟨.hbm, 1026, rfl⟩
abbrev main_call58_v12 : Ref sig .tc := ⟨.hbm, 1027, rfl⟩
abbrev main_call58_v13 : Ref sig .tc := ⟨.hbm, 1028, rfl⟩
abbrev main_call58_v14 : Ref sig .tc := ⟨.hbm, 1029, rfl⟩
abbrev main_v520 : Ref sig .tc := ⟨.hbm, 1030, rfl⟩
abbrev main_c_194 : Ref sig .tc := ⟨.hbm, 1031, rfl⟩
abbrev main_call59_v0 : Ref sig .tc := ⟨.hbm, 1032, rfl⟩
abbrev main_call59_v1 : Ref sig .tc := ⟨.hbm, 1033, rfl⟩
abbrev main_v521 : Ref sig .tc := ⟨.hbm, 1034, rfl⟩
abbrev main_v522 : Ref sig .tc := ⟨.hbm, 1035, rfl⟩
abbrev main_v523 : Ref sig .tc := ⟨.hbm, 1036, rfl⟩
abbrev main_v524 : Ref sig .tc := ⟨.hbm, 1037, rfl⟩
abbrev main_v525 : Ref sig .tc := ⟨.hbm, 1038, rfl⟩
abbrev main_c_195 : Ref sig .tc := ⟨.hbm, 1039, rfl⟩
abbrev main_v526 : Ref sig .tc := ⟨.hbm, 1040, rfl⟩
abbrev main_v527 : Ref sig .tc := ⟨.hbm, 1041, rfl⟩
abbrev main_v528 : Ref sig .tc := ⟨.hbm, 1042, rfl⟩
abbrev main_v529 : Ref sig .tc := ⟨.hbm, 1043, rfl⟩
abbrev main_c_196 : Ref sig .tc := ⟨.hbm, 1044, rfl⟩
abbrev main_v530 : Ref sig .tc := ⟨.hbm, 1045, rfl⟩
abbrev main_c_197 : Ref sig .tc := ⟨.hbm, 1046, rfl⟩
abbrev main_v531 : Ref sig .tc := ⟨.hbm, 1047, rfl⟩
abbrev main_v532 : Ref sig .tc := ⟨.hbm, 1048, rfl⟩
abbrev main_cst_198 : Ref sig .tc := ⟨.hbm, 1049, rfl⟩
abbrev main_v533 : Ref sig .tc := ⟨.hbm, 1050, rfl⟩
abbrev main_c_199 : Ref sig .tc := ⟨.hbm, 1051, rfl⟩
abbrev main_v534 : Ref sig .tc := ⟨.hbm, 1052, rfl⟩
abbrev main_c_200 : Ref sig .tc := ⟨.hbm, 1053, rfl⟩
abbrev main_v535 : Ref sig .tc := ⟨.hbm, 1054, rfl⟩
abbrev main_v536 : Ref sig .tc := ⟨.hbm, 1055, rfl⟩
abbrev main_cst_201 : Ref sig .tc := ⟨.hbm, 1056, rfl⟩
abbrev main_v537 : Ref sig .tc := ⟨.hbm, 1057, rfl⟩
abbrev main_c_202 : Ref sig .tc := ⟨.hbm, 1058, rfl⟩
abbrev main_v538 : Ref sig .tc := ⟨.hbm, 1059, rfl⟩
abbrev main_c_203 : Ref sig .tc := ⟨.hbm, 1060, rfl⟩
abbrev main_v539 : Ref sig .tc := ⟨.hbm, 1061, rfl⟩
abbrev main_v540 : Ref sig .tc := ⟨.hbm, 1062, rfl⟩
abbrev main_cst_204 : Ref sig .tc := ⟨.hbm, 1063, rfl⟩
abbrev main_v541 : Ref sig .tc := ⟨.hbm, 1064, rfl⟩
abbrev main_v542 : Ref sig .tc := ⟨.hbm, 1065, rfl⟩
abbrev main_v543 : Ref sig .tc := ⟨.hbm, 1066, rfl⟩
abbrev main_v544 : Ref sig .tc := ⟨.hbm, 1067, rfl⟩
abbrev main_v545 : Ref sig .tc := ⟨.hbm, 1068, rfl⟩
abbrev main_v546 : Ref sig .tc := ⟨.hbm, 1069, rfl⟩
abbrev main_v547 : Ref sig .tc := ⟨.hbm, 1070, rfl⟩
abbrev main_v548 : Ref sig .tc := ⟨.hbm, 1071, rfl⟩
abbrev main_v549 : Ref sig .tc := ⟨.hbm, 1072, rfl⟩
abbrev main_v550 : Ref sig .tc := ⟨.hbm, 1073, rfl⟩
abbrev main_c_205 : Ref sig .tc := ⟨.hbm, 1074, rfl⟩
abbrev main_v551 : Ref sig .tc := ⟨.hbm, 1075, rfl⟩
abbrev main_v552 : Ref sig .tc := ⟨.hbm, 1076, rfl⟩
abbrev main_v553 : Ref sig .tc := ⟨.hbm, 1077, rfl⟩
abbrev main_v554 : Ref sig .tc := ⟨.hbm, 1078, rfl⟩
abbrev main_v555 : Ref sig .tc := ⟨.hbm, 1079, rfl⟩
abbrev main_v556 : Ref sig .tc := ⟨.hbm, 1080, rfl⟩
abbrev main_c_206 : Ref sig .tc := ⟨.hbm, 1081, rfl⟩
abbrev main_v557 : Ref sig .tc := ⟨.hbm, 1082, rfl⟩
abbrev main_v558 : Ref sig .tc := ⟨.hbm, 1083, rfl⟩
abbrev main_v559 : Ref sig .tc := ⟨.hbm, 1084, rfl⟩
abbrev main_c_207 : Ref sig .tc := ⟨.hbm, 1085, rfl⟩
abbrev main_v560 : Ref sig .tc := ⟨.hbm, 1086, rfl⟩
abbrev main_v561 : Ref sig .tc := ⟨.hbm, 1087, rfl⟩
abbrev main_v562 : Ref sig .tc := ⟨.hbm, 1088, rfl⟩
abbrev main_v563 : Ref sig .tc := ⟨.hbm, 1089, rfl⟩
abbrev main_v564 : Ref sig .tc := ⟨.hbm, 1090, rfl⟩
abbrev main_c_208 : Ref sig .tc := ⟨.hbm, 1091, rfl⟩
abbrev main_v565 : Ref sig .tc := ⟨.hbm, 1092, rfl⟩
abbrev main_v566 : Ref sig .tc := ⟨.hbm, 1093, rfl⟩
abbrev main_v567 : Ref sig .tc := ⟨.hbm, 1094, rfl⟩
abbrev main_v568 : Ref sig .tc := ⟨.hbm, 1095, rfl⟩
abbrev main_v569 : Ref sig .tc := ⟨.hbm, 1096, rfl⟩
abbrev main_c_209 : Ref sig .tc := ⟨.hbm, 1097, rfl⟩
abbrev main_call60_v0 : Ref sig .tc := ⟨.hbm, 1098, rfl⟩
abbrev main_call60_v1 : Ref sig .tc := ⟨.hbm, 1099, rfl⟩
abbrev main_v570 : Ref sig .tc := ⟨.hbm, 1100, rfl⟩
abbrev main_v571 : Ref sig .tc := ⟨.hbm, 1101, rfl⟩
abbrev main_c_210 : Ref sig .tc := ⟨.hbm, 1102, rfl⟩
abbrev main_v572 : Ref sig .tc := ⟨.hbm, 1103, rfl⟩
abbrev main_c_211 : Ref sig .tc := ⟨.hbm, 1104, rfl⟩
abbrev main_v573 : Ref sig .tc := ⟨.hbm, 1105, rfl⟩
abbrev main_v574 : Ref sig .tc := ⟨.hbm, 1106, rfl⟩
abbrev main_c_212 : Ref sig .tc := ⟨.hbm, 1107, rfl⟩
abbrev main_v575 : Ref sig .tc := ⟨.hbm, 1108, rfl⟩
abbrev main_v576 : Ref sig .tc := ⟨.hbm, 1109, rfl⟩
abbrev main_v577 : Ref sig .tc := ⟨.hbm, 1110, rfl⟩
abbrev main_v578 : Ref sig .tc := ⟨.hbm, 1111, rfl⟩
abbrev main_v579 : Ref sig .tc := ⟨.hbm, 1112, rfl⟩
abbrev main_c_213 : Ref sig .tc := ⟨.hbm, 1113, rfl⟩
abbrev main_v580 : Ref sig .tc := ⟨.hbm, 1114, rfl⟩
abbrev main_v581 : Ref sig .tc := ⟨.hbm, 1115, rfl⟩
abbrev main_c_214 : Ref sig .tc := ⟨.hbm, 1116, rfl⟩
abbrev main_v582 : Ref sig .tc := ⟨.hbm, 1117, rfl⟩
abbrev main_v583 : Ref sig .tc := ⟨.hbm, 1118, rfl⟩
abbrev main_v584 : Ref sig .tc := ⟨.hbm, 1119, rfl⟩
abbrev main_v585 : Ref sig .tc := ⟨.hbm, 1120, rfl⟩
abbrev main_v586 : Ref sig .tc := ⟨.hbm, 1121, rfl⟩
abbrev main_v587 : Ref sig .tc := ⟨.hbm, 1122, rfl⟩
abbrev main_v588 : Ref sig .tc := ⟨.hbm, 1123, rfl⟩
abbrev main_v589 : Ref sig .tc := ⟨.hbm, 1124, rfl⟩
abbrev main_call61_call0_c : Ref sig .tc := ⟨.hbm, 1125, rfl⟩
abbrev main_call61_call0_v0 : Ref sig .tc := ⟨.hbm, 1126, rfl⟩
abbrev main_v590 : Ref sig .tc := ⟨.hbm, 1127, rfl⟩
abbrev main_c_215 : Ref sig .tc := ⟨.hbm, 1128, rfl⟩
abbrev main_v591 : Ref sig .tc := ⟨.hbm, 1129, rfl⟩
abbrev main_v592 : Ref sig .tc := ⟨.hbm, 1130, rfl⟩
abbrev main_c_216 : Ref sig .tc := ⟨.hbm, 1131, rfl⟩
abbrev main_v593 : Ref sig .tc := ⟨.hbm, 1132, rfl⟩
abbrev main_c_217 : Ref sig .tc := ⟨.hbm, 1133, rfl⟩
abbrev main_call62_v0 : Ref sig .tc := ⟨.hbm, 1134, rfl⟩
abbrev main_call62_v1 : Ref sig .tc := ⟨.hbm, 1135, rfl⟩
abbrev main_v594 : Ref sig .tc := ⟨.hbm, 1136, rfl⟩
abbrev main_c_218 : Ref sig .tc := ⟨.hbm, 1137, rfl⟩
abbrev main_v595 : Ref sig .tc := ⟨.hbm, 1138, rfl⟩
abbrev main_v596 : Ref sig .tc := ⟨.hbm, 1139, rfl⟩
abbrev main_c_219 : Ref sig .tc := ⟨.hbm, 1140, rfl⟩
abbrev main_call63_v0 : Ref sig .tc := ⟨.hbm, 1141, rfl⟩
abbrev main_call63_v1 : Ref sig .tc := ⟨.hbm, 1142, rfl⟩
abbrev main_v597 : Ref sig .tc := ⟨.hbm, 1143, rfl⟩
abbrev main_c_220 : Ref sig .tc := ⟨.hbm, 1144, rfl⟩
abbrev main_v598 : Ref sig .tc := ⟨.hbm, 1145, rfl⟩
abbrev main_v599 : Ref sig .tc := ⟨.hbm, 1146, rfl⟩
abbrev main_c_221 : Ref sig .tc := ⟨.hbm, 1147, rfl⟩
abbrev main_v600 : Ref sig .tc := ⟨.hbm, 1148, rfl⟩
abbrev main_v601 : Ref sig .tc := ⟨.hbm, 1149, rfl⟩
abbrev main_v602 : Ref sig .tc := ⟨.hbm, 1150, rfl⟩
abbrev main_v603 : Ref sig .tc := ⟨.hbm, 1151, rfl⟩
abbrev main_v604 : Ref sig .tc := ⟨.hbm, 1152, rfl⟩
abbrev main_c_222 : Ref sig .tc := ⟨.hbm, 1153, rfl⟩
abbrev main_v605 : Ref sig .tc := ⟨.hbm, 1154, rfl⟩
abbrev main_v606 : Ref sig .tc := ⟨.hbm, 1155, rfl⟩
abbrev main_c_223 : Ref sig .tc := ⟨.hbm, 1156, rfl⟩
abbrev main_v607 : Ref sig .tc := ⟨.hbm, 1157, rfl⟩
abbrev main_v608 : Ref sig .tc := ⟨.hbm, 1158, rfl⟩
abbrev main_v609 : Ref sig .tc := ⟨.hbm, 1159, rfl⟩
abbrev main_v610 : Ref sig .tc := ⟨.hbm, 1160, rfl⟩
abbrev main_v611 : Ref sig .tc := ⟨.hbm, 1161, rfl⟩
abbrev main_c_224 : Ref sig .tc := ⟨.hbm, 1162, rfl⟩
abbrev main_call64_v0 : Ref sig .tc := ⟨.hbm, 1163, rfl⟩
abbrev main_call64_v1 : Ref sig .tc := ⟨.hbm, 1164, rfl⟩
abbrev main_v612 : Ref sig .tc := ⟨.hbm, 1165, rfl⟩
abbrev main_call65_v0 : Ref sig .tc := ⟨.hbm, 1166, rfl⟩
abbrev main_call65_v1_0 : Ref sig .tc := ⟨.hbm, 1167, rfl⟩
abbrev main_v613 : Ref sig .tc := ⟨.hbm, 1168, rfl⟩
abbrev main_c_225 : Ref sig .tc := ⟨.hbm, 1169, rfl⟩
abbrev main_v614 : Ref sig .tc := ⟨.hbm, 1170, rfl⟩
abbrev main_v615 : Ref sig .tc := ⟨.hbm, 1171, rfl⟩
abbrev main_c_226 : Ref sig .tc := ⟨.hbm, 1172, rfl⟩
abbrev main_v616 : Ref sig .tc := ⟨.hbm, 1173, rfl⟩
abbrev main_v617 : Ref sig .tc := ⟨.hbm, 1174, rfl⟩
abbrev main_v618 : Ref sig .tc := ⟨.hbm, 1175, rfl⟩
abbrev main_v619 : Ref sig .tc := ⟨.hbm, 1176, rfl⟩
abbrev main_v620 : Ref sig .tc := ⟨.hbm, 1177, rfl⟩
abbrev main_c_227 : Ref sig .tc := ⟨.hbm, 1178, rfl⟩
abbrev main_v621 : Ref sig .tc := ⟨.hbm, 1179, rfl⟩
abbrev main_v622 : Ref sig .tc := ⟨.hbm, 1180, rfl⟩
abbrev main_v623 : Ref sig .tc := ⟨.hbm, 1181, rfl⟩
abbrev main_v624 : Ref sig .tc := ⟨.hbm, 1182, rfl⟩
abbrev main_v625 : Ref sig .tc := ⟨.hbm, 1183, rfl⟩
abbrev main_c_228 : Ref sig .tc := ⟨.hbm, 1184, rfl⟩
abbrev main_call66_v0 : Ref sig .tc := ⟨.hbm, 1185, rfl⟩
abbrev main_call66_v1 : Ref sig .tc := ⟨.hbm, 1186, rfl⟩
abbrev main_v626 : Ref sig .tc := ⟨.hbm, 1187, rfl⟩
abbrev main_call67_c : Ref sig .tc := ⟨.hbm, 1188, rfl⟩
abbrev main_call67_v0 : Ref sig .tc := ⟨.hbm, 1189, rfl⟩
abbrev main_v627 : Ref sig .tc := ⟨.hbm, 1190, rfl⟩
abbrev main_c_229 : Ref sig .tc := ⟨.hbm, 1191, rfl⟩
abbrev main_v628 : Ref sig .tc := ⟨.hbm, 1192, rfl⟩
abbrev main_v629 : Ref sig .tc := ⟨.hbm, 1193, rfl⟩
abbrev main_c_230 : Ref sig .tc := ⟨.hbm, 1194, rfl⟩
abbrev main_v630 : Ref sig .tc := ⟨.hbm, 1195, rfl⟩
abbrev main_v631 : Ref sig .tc := ⟨.hbm, 1196, rfl⟩
abbrev main_c_231 : Ref sig .tc := ⟨.hbm, 1197, rfl⟩
abbrev main_v632 : Ref sig .tc := ⟨.hbm, 1198, rfl⟩
abbrev main_v633 : Ref sig .tc := ⟨.hbm, 1199, rfl⟩
abbrev main_v634 : Ref sig .tc := ⟨.hbm, 1200, rfl⟩
abbrev main_v635 : Ref sig .tc := ⟨.hbm, 1201, rfl⟩
abbrev main_v636 : Ref sig .tc := ⟨.hbm, 1202, rfl⟩
abbrev main_c_232 : Ref sig .tc := ⟨.hbm, 1203, rfl⟩
abbrev main_v637 : Ref sig .tc := ⟨.hbm, 1204, rfl⟩
abbrev main_v638 : Ref sig .tc := ⟨.hbm, 1205, rfl⟩
abbrev main_v639 : Ref sig .tc := ⟨.hbm, 1206, rfl⟩
abbrev main_c_233 : Ref sig .tc := ⟨.hbm, 1207, rfl⟩
abbrev main_v640 : Ref sig .tc := ⟨.hbm, 1208, rfl⟩
abbrev main_v641 : Ref sig .tc := ⟨.hbm, 1209, rfl⟩
abbrev main_v642 : Ref sig .tc := ⟨.hbm, 1210, rfl⟩
abbrev main_c_234 : Ref sig .tc := ⟨.hbm, 1211, rfl⟩
abbrev main_call68_v0 : Ref sig .tc := ⟨.hbm, 1212, rfl⟩
abbrev main_call68_v1 : Ref sig .tc := ⟨.hbm, 1213, rfl⟩
abbrev main_v643 : Ref sig .tc := ⟨.hbm, 1214, rfl⟩
abbrev main_c_235 : Ref sig .tc := ⟨.hbm, 1215, rfl⟩
abbrev main_call69_v0 : Ref sig .tc := ⟨.hbm, 1216, rfl⟩
abbrev main_call69_v1 : Ref sig .tc := ⟨.hbm, 1217, rfl⟩
abbrev main_v644 : Ref sig .tc := ⟨.hbm, 1218, rfl⟩
abbrev main_cst_236 : Ref sig .tc := ⟨.hbm, 1219, rfl⟩
abbrev main_v645 : Ref sig .tc := ⟨.hbm, 1220, rfl⟩
abbrev main_v646 : Ref sig .tc := ⟨.hbm, 1221, rfl⟩
abbrev main_cst_237 : Ref sig .tc := ⟨.hbm, 1222, rfl⟩
abbrev main_call70_v0 : Ref sig .tc := ⟨.hbm, 1223, rfl⟩
abbrev main_call70_v1 : Ref sig .tc := ⟨.hbm, 1224, rfl⟩
abbrev main_call70_v2 : Ref sig .tc := ⟨.hbm, 1225, rfl⟩
abbrev main_v647 : Ref sig .tc := ⟨.hbm, 1226, rfl⟩
abbrev main_c_238 : Ref sig .tc := ⟨.hbm, 1227, rfl⟩
abbrev main_v648 : Ref sig .tc := ⟨.hbm, 1228, rfl⟩
abbrev main_v649 : Ref sig .tc := ⟨.hbm, 1229, rfl⟩
abbrev main_c_239 : Ref sig .tc := ⟨.hbm, 1230, rfl⟩
abbrev main_v650 : Ref sig .tc := ⟨.hbm, 1231, rfl⟩
abbrev main_v651 : Ref sig .tc := ⟨.hbm, 1232, rfl⟩
abbrev main_v652 : Ref sig .tc := ⟨.hbm, 1233, rfl⟩
abbrev main_c_240 : Ref sig .tc := ⟨.hbm, 1234, rfl⟩
abbrev main_v653 : Ref sig .tc := ⟨.hbm, 1235, rfl⟩
abbrev main_v654 : Ref sig .tc := ⟨.hbm, 1236, rfl⟩
abbrev main_c_241 : Ref sig .tc := ⟨.hbm, 1237, rfl⟩
abbrev main_v655 : Ref sig .tc := ⟨.hbm, 1238, rfl⟩
abbrev main_v656 : Ref sig .tc := ⟨.hbm, 1239, rfl⟩
abbrev main_v657 : Ref sig .tc := ⟨.hbm, 1240, rfl⟩
abbrev main_v658 : Ref sig .tc := ⟨.hbm, 1241, rfl⟩
abbrev main_v659 : Ref sig .tc := ⟨.hbm, 1242, rfl⟩
abbrev main_v660 : Ref sig .tc := ⟨.hbm, 1243, rfl⟩
abbrev main_v661 : Ref sig .tc := ⟨.hbm, 1244, rfl⟩
abbrev main_v662 : Ref sig .tc := ⟨.hbm, 1245, rfl⟩
abbrev main_v663 : Ref sig .tc := ⟨.hbm, 1246, rfl⟩
abbrev main_c_242 : Ref sig .tc := ⟨.hbm, 1247, rfl⟩
abbrev main_v664 : Ref sig .tc := ⟨.hbm, 1248, rfl⟩
abbrev main_v665 : Ref sig .tc := ⟨.hbm, 1249, rfl⟩
abbrev main_v666 : Ref sig .tc := ⟨.hbm, 1250, rfl⟩
abbrev main_v667 : Ref sig .tc := ⟨.hbm, 1251, rfl⟩
abbrev main_c_243 : Ref sig .tc := ⟨.hbm, 1252, rfl⟩
abbrev main_v668 : Ref sig .tc := ⟨.hbm, 1253, rfl⟩
abbrev main_c_244 : Ref sig .tc := ⟨.hbm, 1254, rfl⟩
abbrev main_v669 : Ref sig .tc := ⟨.hbm, 1255, rfl⟩
abbrev main_v670 : Ref sig .tc := ⟨.hbm, 1256, rfl⟩
abbrev main_v671 : Ref sig .tc := ⟨.hbm, 1257, rfl⟩
abbrev main_c_245 : Ref sig .tc := ⟨.hbm, 1258, rfl⟩
abbrev main_call71_v0 : Ref sig .tc := ⟨.hbm, 1259, rfl⟩
abbrev main_call71_v1 : Ref sig .tc := ⟨.hbm, 1260, rfl⟩
abbrev main_v672 : Ref sig .tc := ⟨.hbm, 1261, rfl⟩
abbrev main_c_246 : Ref sig .tc := ⟨.hbm, 1262, rfl⟩
abbrev main_v673 : Ref sig .tc := ⟨.hbm, 1263, rfl⟩
abbrev main_v674 : Ref sig .tc := ⟨.hbm, 1264, rfl⟩
abbrev main_v675 : Ref sig .tc := ⟨.hbm, 1265, rfl⟩
abbrev main_c_247 : Ref sig .tc := ⟨.hbm, 1266, rfl⟩
abbrev main_call72_v0 : Ref sig .tc := ⟨.hbm, 1267, rfl⟩
abbrev main_call72_v1 : Ref sig .tc := ⟨.hbm, 1268, rfl⟩
abbrev main_v676 : Ref sig .tc := ⟨.hbm, 1269, rfl⟩
abbrev main_c_248 : Ref sig .tc := ⟨.hbm, 1270, rfl⟩
abbrev main_v677 : Ref sig .tc := ⟨.hbm, 1271, rfl⟩
abbrev main_v678 : Ref sig .tc := ⟨.hbm, 1272, rfl⟩
abbrev main_c_249 : Ref sig .tc := ⟨.hbm, 1273, rfl⟩
abbrev main_v679 : Ref sig .tc := ⟨.hbm, 1274, rfl⟩
abbrev main_v680 : Ref sig .tc := ⟨.hbm, 1275, rfl⟩
abbrev main_v681 : Ref sig .tc := ⟨.hbm, 1276, rfl⟩
abbrev main_v682 : Ref sig .tc := ⟨.hbm, 1277, rfl⟩
abbrev main_v683 : Ref sig .tc := ⟨.hbm, 1278, rfl⟩
abbrev main_v684 : Ref sig .tc := ⟨.hbm, 1279, rfl⟩
abbrev main_c_250 : Ref sig .tc := ⟨.hbm, 1280, rfl⟩
abbrev main_v685 : Ref sig .tc := ⟨.hbm, 1281, rfl⟩
abbrev main_v686 : Ref sig .tc := ⟨.hbm, 1282, rfl⟩
abbrev main_c_251 : Ref sig .tc := ⟨.hbm, 1283, rfl⟩
abbrev main_call73_v0 : Ref sig .tc := ⟨.hbm, 1284, rfl⟩
abbrev main_call73_v1 : Ref sig .tc := ⟨.hbm, 1285, rfl⟩
abbrev main_call73_v2 : Ref sig .tc := ⟨.hbm, 1286, rfl⟩
abbrev main_call73_v3 : Ref sig .tc := ⟨.hbm, 1287, rfl⟩
abbrev main_call73_v4 : Ref sig .tc := ⟨.hbm, 1288, rfl⟩
abbrev main_call73_v5 : Ref sig .tc := ⟨.hbm, 1289, rfl⟩
abbrev main_call73_v6 : Ref sig .tc := ⟨.hbm, 1290, rfl⟩
abbrev main_call73_v7 : Ref sig .tc := ⟨.hbm, 1291, rfl⟩
abbrev main_call73_v8 : Ref sig .tc := ⟨.hbm, 1292, rfl⟩
abbrev main_call73_c : Ref sig .tc := ⟨.hbm, 1293, rfl⟩
abbrev main_call73_v9 : Ref sig .tc := ⟨.hbm, 1294, rfl⟩
abbrev main_call73_v10 : Ref sig .tc := ⟨.hbm, 1295, rfl⟩
abbrev main_call73_v11 : Ref sig .tc := ⟨.hbm, 1296, rfl⟩
abbrev main_call73_c_0 : Ref sig .tc := ⟨.hbm, 1297, rfl⟩
abbrev main_call73_v12 : Ref sig .tc := ⟨.hbm, 1298, rfl⟩
abbrev main_call73_v13 : Ref sig .tc := ⟨.hbm, 1299, rfl⟩
abbrev main_v687 : Ref sig .tc := ⟨.hbm, 1300, rfl⟩
abbrev main_c_252 : Ref sig .tc := ⟨.hbm, 1301, rfl⟩
abbrev main_call74_v0 : Ref sig .tc := ⟨.hbm, 1302, rfl⟩
abbrev main_call74_v1 : Ref sig .tc := ⟨.hbm, 1303, rfl⟩
abbrev main_v688 : Ref sig .tc := ⟨.hbm, 1304, rfl⟩
abbrev main_c_253 : Ref sig .tc := ⟨.hbm, 1305, rfl⟩
abbrev main_v689 : Ref sig .tc := ⟨.hbm, 1306, rfl⟩
abbrev main_v690 : Ref sig .tc := ⟨.hbm, 1307, rfl⟩
abbrev main_c_254 : Ref sig .tc := ⟨.hbm, 1308, rfl⟩
abbrev main_call75_v0 : Ref sig .tc := ⟨.hbm, 1309, rfl⟩
abbrev main_call75_v1 : Ref sig .tc := ⟨.hbm, 1310, rfl⟩
abbrev main_call75_v2 : Ref sig .tc := ⟨.hbm, 1311, rfl⟩
abbrev main_call75_v3 : Ref sig .tc := ⟨.hbm, 1312, rfl⟩
abbrev main_call75_v4 : Ref sig .tc := ⟨.hbm, 1313, rfl⟩
abbrev main_call75_v5 : Ref sig .tc := ⟨.hbm, 1314, rfl⟩
abbrev main_call75_v6 : Ref sig .tc := ⟨.hbm, 1315, rfl⟩
abbrev main_call75_v7 : Ref sig .tc := ⟨.hbm, 1316, rfl⟩
abbrev main_call75_v8 : Ref sig .tc := ⟨.hbm, 1317, rfl⟩
abbrev main_call75_c : Ref sig .tc := ⟨.hbm, 1318, rfl⟩
abbrev main_call75_v9 : Ref sig .tc := ⟨.hbm, 1319, rfl⟩
abbrev main_call75_v10 : Ref sig .tc := ⟨.hbm, 1320, rfl⟩
abbrev main_call75_v11 : Ref sig .tc := ⟨.hbm, 1321, rfl⟩
abbrev main_call75_c_0 : Ref sig .tc := ⟨.hbm, 1322, rfl⟩
abbrev main_call75_v12 : Ref sig .tc := ⟨.hbm, 1323, rfl⟩
abbrev main_call75_v13 : Ref sig .tc := ⟨.hbm, 1324, rfl⟩
abbrev main_v691 : Ref sig .tc := ⟨.hbm, 1325, rfl⟩
abbrev main_c_255 : Ref sig .tc := ⟨.hbm, 1326, rfl⟩
abbrev main_call76_v0 : Ref sig .tc := ⟨.hbm, 1327, rfl⟩
abbrev main_call76_c : Ref sig .tc := ⟨.hbm, 1328, rfl⟩
abbrev main_call76_v1 : Ref sig .tc := ⟨.hbm, 1329, rfl⟩
abbrev main_call76_c_0 : Ref sig .tc := ⟨.hbm, 1330, rfl⟩
abbrev main_call76_v2 : Ref sig .tc := ⟨.hbm, 1331, rfl⟩
abbrev main_call76_v3 : Ref sig .tc := ⟨.hbm, 1332, rfl⟩
abbrev main_call76_v4 : Ref sig .tc := ⟨.hbm, 1333, rfl⟩
abbrev main_call76_c_1 : Ref sig .tc := ⟨.hbm, 1334, rfl⟩
abbrev main_call76_v5 : Ref sig .tc := ⟨.hbm, 1335, rfl⟩
abbrev main_call76_v6 : Ref sig .tc := ⟨.hbm, 1336, rfl⟩
abbrev main_call76_c_2 : Ref sig .tc := ⟨.hbm, 1337, rfl⟩
abbrev main_call76_v7 : Ref sig .tc := ⟨.hbm, 1338, rfl⟩
abbrev main_call76_v8 : Ref sig .tc := ⟨.hbm, 1339, rfl⟩
abbrev main_call76_c_3 : Ref sig .tc := ⟨.hbm, 1340, rfl⟩
abbrev main_call76_v9 : Ref sig .tc := ⟨.hbm, 1341, rfl⟩
abbrev main_call76_v10 : Ref sig .tc := ⟨.hbm, 1342, rfl⟩
abbrev main_call76_v11 : Ref sig .tc := ⟨.hbm, 1343, rfl⟩
abbrev main_call76_v12 : Ref sig .tc := ⟨.hbm, 1344, rfl⟩
abbrev main_call76_v13 : Ref sig .tc := ⟨.hbm, 1345, rfl⟩
abbrev main_call76_v14 : Ref sig .tc := ⟨.hbm, 1346, rfl⟩
abbrev main_v692 : Ref sig .tc := ⟨.hbm, 1347, rfl⟩
abbrev main_c_256 : Ref sig .tc := ⟨.hbm, 1348, rfl⟩
abbrev main_call77_v0 : Ref sig .tc := ⟨.hbm, 1349, rfl⟩
abbrev main_call77_v1 : Ref sig .tc := ⟨.hbm, 1350, rfl⟩
abbrev main_v693 : Ref sig .tc := ⟨.hbm, 1351, rfl⟩
abbrev main_c_257 : Ref sig .tc := ⟨.hbm, 1352, rfl⟩
abbrev main_v694 : Ref sig .tc := ⟨.hbm, 1353, rfl⟩
abbrev main_v695 : Ref sig .tc := ⟨.hbm, 1354, rfl⟩
abbrev main_c_258 : Ref sig .tc := ⟨.hbm, 1355, rfl⟩
abbrev main_call78_v0 : Ref sig .tc := ⟨.hbm, 1356, rfl⟩
abbrev main_call78_c : Ref sig .tc := ⟨.hbm, 1357, rfl⟩
abbrev main_call78_v1 : Ref sig .tc := ⟨.hbm, 1358, rfl⟩
abbrev main_call78_c_0 : Ref sig .tc := ⟨.hbm, 1359, rfl⟩
abbrev main_call78_v2 : Ref sig .tc := ⟨.hbm, 1360, rfl⟩
abbrev main_call78_v3 : Ref sig .tc := ⟨.hbm, 1361, rfl⟩
abbrev main_call78_v4 : Ref sig .tc := ⟨.hbm, 1362, rfl⟩
abbrev main_call78_c_1 : Ref sig .tc := ⟨.hbm, 1363, rfl⟩
abbrev main_call78_v5 : Ref sig .tc := ⟨.hbm, 1364, rfl⟩
abbrev main_call78_v6 : Ref sig .tc := ⟨.hbm, 1365, rfl⟩
abbrev main_call78_c_2 : Ref sig .tc := ⟨.hbm, 1366, rfl⟩
abbrev main_call78_v7 : Ref sig .tc := ⟨.hbm, 1367, rfl⟩
abbrev main_call78_v8 : Ref sig .tc := ⟨.hbm, 1368, rfl⟩
abbrev main_call78_c_3 : Ref sig .tc := ⟨.hbm, 1369, rfl⟩
abbrev main_call78_v9 : Ref sig .tc := ⟨.hbm, 1370, rfl⟩
abbrev main_call78_v10 : Ref sig .tc := ⟨.hbm, 1371, rfl⟩
abbrev main_call78_v11 : Ref sig .tc := ⟨.hbm, 1372, rfl⟩
abbrev main_call78_v12 : Ref sig .tc := ⟨.hbm, 1373, rfl⟩
abbrev main_call78_v13 : Ref sig .tc := ⟨.hbm, 1374, rfl⟩
abbrev main_call78_v14 : Ref sig .tc := ⟨.hbm, 1375, rfl⟩
abbrev main_v696 : Ref sig .tc := ⟨.hbm, 1376, rfl⟩
abbrev main_c_259 : Ref sig .tc := ⟨.hbm, 1377, rfl⟩
abbrev main_call79_v0 : Ref sig .tc := ⟨.hbm, 1378, rfl⟩
abbrev main_call79_v1 : Ref sig .tc := ⟨.hbm, 1379, rfl⟩
abbrev main_v697 : Ref sig .tc := ⟨.hbm, 1380, rfl⟩
abbrev main_v698 : Ref sig .tc := ⟨.hbm, 1381, rfl⟩
abbrev main_v699 : Ref sig .tc := ⟨.hbm, 1382, rfl⟩
abbrev main_v700 : Ref sig .tc := ⟨.hbm, 1383, rfl⟩
abbrev main_v701 : Ref sig .tc := ⟨.hbm, 1384, rfl⟩
abbrev main_c_260 : Ref sig .tc := ⟨.hbm, 1385, rfl⟩
abbrev main_v702 : Ref sig .tc := ⟨.hbm, 1386, rfl⟩
abbrev main_v703 : Ref sig .tc := ⟨.hbm, 1387, rfl⟩
abbrev main_v704 : Ref sig .tc := ⟨.hbm, 1388, rfl⟩
abbrev main_v705 : Ref sig .tc := ⟨.hbm, 1389, rfl⟩
abbrev main_v706 : Ref sig .tc := ⟨.hbm, 1390, rfl⟩

abbrev nD : Nat := 1
abbrev τ : Topo := Topo.v7x

variable {F : FTy → Type} [FloatOps F]

class Facts₀ : Prop where
  slices_S4x300000x5_S1x300000x5_0_0_0 : S4x300000x5.Slices ![0, 0, 0] S1x300000x5
  shapeCasts_S1x300000x5_S300000x5 : S1x300000x5.ShapeCasts S300000x5
  bcast_S_S1 : S_.BroadcastsInDim S1 (![] : Fin 0 → Fin S1.rank)
  concatenates_S1_S1_S2_d0 : Shape.Concatenates [S1, S1] S2 0
  slices_S300000x5_S300000x3_0_0 : S300000x5.Slices ![0, 0] S300000x3
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  reducesTo_S300000x3_S300000_d1 : S300000x3.ReducesTo [1] S300000
  h_S_ : 0 < S_.numel
  slices_S300000x3_S300000x1_0_2 : S300000x3.Slices ![0, 2] S300000x1
  shapeCasts_S300000x1_S300000 : S300000x1.ShapeCasts S300000
  bcast_S_S300000 : S_.BroadcastsInDim S300000 (![] : Fin 0 → Fin S300000.rank)
  slices_S300000x3_S300000x1_0_1 : S300000x3.Slices ![0, 1] S300000x1
  slices_S300000x3_S300000x1_0_0 : S300000x3.Slices ![0, 0] S300000x1
  bcast_S_S262145 : S_.BroadcastsInDim S262145 (![] : Fin 0 → Fin S262145.rank)
  bcast_S300000_S300000x1_0 : S300000.BroadcastsInDim S300000x1 (![0] : Fin 1 → Fin S300000x1.rank)
  natLt_1_32 : 1 < 32
  bcast_S_S_ : S_.BroadcastsInDim S_ (![] : Fin 0 → Fin S_.rank)
  reduceWindows_S300000_S300000_w300000s1p299999_0 : S300000.ReduceWindows (![300000] : Fin 1 → Nat) ![1] ![299999] ![0] S300000
  slices_S300000_S299999_1 : S300000.Slices ![1] S299999
  slices_S300000_S299999_0 : S300000.Slices ![0] S299999
  concatenates_S1_S299999_S300000_d0 : Shape.Concatenates [S1, S299999] S300000 0
  bcast_S_S30001x20x5 : S_.BroadcastsInDim S30001x20x5 (![] : Fin 0 → Fin S30001x20x5.rank)
  bcast_S300000x1_S300000x5_0_1 : S300000x1.BroadcastsInDim S300000x5 (![0, 1] : Fin 2 → Fin S300000x5.rank)
  bcast_S_S300000x5 : S_.BroadcastsInDim S300000x5 (![] : Fin 0 → Fin S300000x5.rank)
  concatenates_S300000x1_S300000x1_S300000x2_d1 : Shape.Concatenates [S300000x1, S300000x1] S300000x2 1
  slices_S30001x20x5_S30000x20x5_0_0_0 : S30001x20x5.Slices ![0, 0, 0] S30000x20x5
  bcast_S_S30001 : S_.BroadcastsInDim S30001 (![] : Fin 0 → Fin S30001.rank)
  slices_S30001_S30000_0 : S30001.Slices ![0] S30000
  bcast_S_S30000 : S_.BroadcastsInDim S30000 (![] : Fin 0 → Fin S30000.rank)
  bcast_S30000_S30000x1_0 : S30000.BroadcastsInDim S30000x1 (![0] : Fin 1 → Fin S30000x1.rank)
  concatenates_S30000x1_S30000x1_S30000x1_S30000x3_d1 : Shape.Concatenates [S30000x1, S30000x1, S30000x1] S30000x3 1
  bcast_S_S30000x1 : S_.BroadcastsInDim S30000x1 (![] : Fin 0 → Fin S30000x1.rank)
  concatenates_S30000x1_S30000x3_S30000x4_d1 : Shape.Concatenates [S30000x1, S30000x3] S30000x4 1
  slices_S4x300000x5_S1x300000x5_1_0_0 : S4x300000x5.Slices ![1, 0, 0] S1x300000x5
  slices_S4x300000x5_S1x300000x5_2_0_0 : S4x300000x5.Slices ![2, 0, 0] S1x300000x5
  slices_S4x300000x5_S1x300000x5_3_0_0 : S4x300000x5.Slices ![3, 0, 0] S1x300000x5
  concatenates_S30000x20x5_S30000x20x5_S30000x20x5_S30000x20x5_S120000x20x5_d0 : Shape.Concatenates [S30000x20x5, S30000x20x5, S30000x20x5, S30000x20x5] S120000x20x5 0
  concatenates_S30000_S30000_S30000_S30000_S120000_d0 : Shape.Concatenates [S30000, S30000, S30000, S30000] S120000 0
  concatenates_S30000x4_S30000x4_S30000x4_S30000x4_S120000x4_d0 : Shape.Concatenates [S30000x4, S30000x4, S30000x4, S30000x4] S120000x4 0
  scatter_S300000x5_S2_S__n_01_01_0_wf : ScatterDims.WF S300000x5 S2 S_ [] [0, 1] [0, 1] 0
  scatter_S262145_S300000x1_S300000_n_0_0_1_wf : ScatterDims.WF S262145 S300000x1 S300000 [] [0] [0] 1
  gather_S262145_S300000x1_S300000_n_0_n_n_0_1_1_wf : GatherDims.WF S262145 S300000x1 S300000 [] [0] [] [0] [] 1 ![1]
  gather_S300000_S300000x1_S300000_n_0_n_n_0_1_1_wf : GatherDims.WF S300000 S300000x1 S300000 [] [0] [] [0] [] 1 ![1]
  scatter_S300000_S300000x1_S300000_n_0_0_1_wf : ScatterDims.WF S300000 S300000x1 S300000 [] [0] [0] 1
  scatter_S30001x20x5_S300000x2_S300000x5_1_01_01_1_wf : ScatterDims.WF S30001x20x5 S300000x2 S300000x5 [1] [0, 1] [0, 1] 1
  scatter_S30001_S300000x1_S300000_n_0_0_1_wf : ScatterDims.WF S30001 S300000x1 S300000 [] [0] [0] 1

variable [Facts₀]

def scatter_S300000x5_S2_S__n_01_01_0 : ScatterDims S300000x5 S2 S_ where
  updateWindowDims := []
  insertedWindowDims := [0, 1]
  scatterDimsToOperandDims := [0, 1]
  indexVectorDim := 0
  wf := scatter_S300000x5_S2_S__n_01_01_0_wf
def scatter_S262145_S300000x1_S300000_n_0_0_1 : ScatterDims S262145 S300000x1 S300000 where
  updateWindowDims := []
  insertedWindowDims := [0]
  scatterDimsToOperandDims := [0]
  indexVectorDim := 1
  wf := scatter_S262145_S300000x1_S300000_n_0_0_1_wf
def gather_S262145_S300000x1_S300000_n_0_n_n_0_1_1 : GatherDims S262145 S300000x1 S300000 where
  offsetDims := []
  collapsedSliceDims := [0]
  operandBatchingDims := []
  startIndicesBatchingDims := []
  startIndexMap := [0]
  indexVectorDim := 1
  sliceSizes := ![1]
  wf := gather_S262145_S300000x1_S300000_n_0_n_n_0_1_1_wf
def comparator_i32_i32_d0 : BitVec 32 × BitVec 32 → BitVec 32 × BitVec 32 → BitVec 1 :=
  fun l r =>
    let v2 := IntOp.cmpi .slt l.1 r.1
    v2
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf
def scatter_S300000_S300000x1_S300000_n_0_0_1 : ScatterDims S300000 S300000x1 S300000 where
  updateWindowDims := []
  insertedWindowDims := [0]
  scatterDimsToOperandDims := [0]
  indexVectorDim := 1
  wf := scatter_S300000_S300000x1_S300000_n_0_0_1_wf
def scatter_S30001x20x5_S300000x2_S300000x5_1_01_01_1 : ScatterDims S30001x20x5 S300000x2 S300000x5 where
  updateWindowDims := [1]
  insertedWindowDims := [0, 1]
  scatterDimsToOperandDims := [0, 1]
  indexVectorDim := 1
  wf := scatter_S30001x20x5_S300000x2_S300000x5_1_01_01_1_wf
def scatter_S30001_S300000x1_S300000_n_0_0_1 : ScatterDims S30001 S300000x1 S300000 where
  updateWindowDims := []
  insertedWindowDims := [0]
  scatterDimsToOperandDims := [0]
  indexVectorDim := 1
  wf := scatter_S30001_S300000x1_S300000_n_0_0_1_wf

class Facts : Prop extends Facts₀ where

variable [Facts]
-- ==== Proof.KFB_Body.lean ====
import proofs.«111982_j16939351015723_2_alg».proof.Proof.Gen.Kernel.Skeleton
import proofs.«111982_j16939351015723_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

The body reads its input window's whole staging buffer once and writes its output window's whole staging buffer once:
both through the unit rectangle at offset zero whose sizes are the buffer's own. -/

/-- The whole input block, as the rectangle of the body's one load. -/
abbrev rIn : Rect S1x3x300000 := Rect.unit (s := S1x3x300000) ![0, 0, 0] S1x3x300000.size inb_S1x3x300000_S1x3x300000_0_0_0
/-- The whole output block, as the rectangle of the body's one store (and of its unused load). -/
abbrev rOut : Rect S1x1x300000 := Rect.unit (s := S1x1x300000) ![0, 0, 0] S1x1x300000.size inb_S1x1x300000_S1x1x300000_0_0_0

/-- The offsets of both rectangles are zero on every axis. -/
theorem hz3 : (![0, 0, 0] : Fin 3 → Nat) = fun _ => 0 := by
  funext a; fin_cases a <;> rfl

/-! ## What the body leaves in the output window's buffer -/

/-- The output window's staging buffer after the body, from the input window's block `x0`: its one store as a
    one-piece list; the stored value is the voxel code computed from the three coordinate rows of `x0`
    (`k0_pay3`: the first cell index, `k0_pay6`: the in-range mask, `k0_pay7`: the combined second and third index). -/
def out0_1 (x0 : Vec F S1x3x300000 .f32) : Vec F S1x1x300000 .i32 :=
  View.canon ([⟨rOut, k0_pay1 (k0_pay3 (View.ld x0 rIn)) (k0_pay6 (View.ld x0 rIn)) (k0_pay7 (View.ld x0 rIn))⟩] :
    List (View.Piece (Elt F) S1x1x300000 .i32))

/-- The one store covers the buffer: its rectangle is the whole shape. -/
theorem cover0_1 (p0 : Vec F S1x1x300000 .i32) (y : S1x1x300000.Idx) :
    ∃ pc ∈ ([⟨rOut, p0⟩] : List (View.Piece (Elt F) S1x1x300000 .i32)), y ∈ pc.1.set :=
  ⟨_, List.mem_singleton_self _, View.mem_set_unit_zero (S := S1x1x300000) hz3 inb_S1x1x300000_S1x1x300000_0_0_0 y⟩

/-- So the buffer holds exactly the stored value, computed from the block itself. -/
theorem out0_1_eq (x0 : Vec F S1x3x300000 .f32) :
    out0_1 x0 = k0_pay1 (k0_pay3 x0) (k0_pay6 x0) (k0_pay7 x0) := by
  unfold out0_1
  rw [View.canon_unit_zero (S := S1x1x300000) hz3 inb_S1x1x300000_S1x1x300000_0_0_0]
  simp only [View.ld_unit_zero (S := S1x3x300000) hz3 inb_S1x3x300000_S1x3x300000_0_0_0]

/-! ## The body's triple -/

set_option maxHeartbeats 1000000 in
/-- The kernel body on whole staging memrefs, the input's at read contents `x0` and the output's at anything, runs to
    the continuation holding the input's as it was and the output's at `out0_1 x0`: the load of the input block, the
    unused load of the output block (any contents will do), the store of the computed block. -/
theorem sound_kernel (c : Dev nD) (E : Set ℕ) (i : grid0.Coords) (arg1 : Memref sig .tc .vmem S1x3x300000 .f32) (harg1 : arg1.IsWhole)
    (arg2 : Memref sig .tc .vmem S1x1x300000 .i32) (harg2 : arg2.IsWhole)
    (x0 : Vec F S1x3x300000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__lin_kernel i arg1 harg1 arg2 harg2) K := by
  simp only [cc0__lin_kernel_eq_skeleton]; unfold cc0__lin_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.Kernel.Hand

end
-- ==== Proof.KFB_Quiet.lean ====
import proofs.«111982_j16939351015723_2_alg».proof.Proof.Gen.Kernel.Launch
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Host operations that leave the frame's buffers alone

Every host operation of the program writes exactly one buffer, its result, and allocates nothing. So it leaves a given
buffer as it was as soon as its result is another buffer — a comparison of two references, decided. -/

/-- A host operation is QUIET when it allocates nothing and writes none of the three buffers the frame watches: the
    argument array and the two arrays of the pipeline (its input `main_v62` and its output `main_v63`). -/
def Quiet (op : HloOp τ sig (Elt F)) : Prop :=
  op.fresh = ∅ ∧ ∀ r ∈ [main_arg0, main_v62, main_v63], Proc.devRef (τ := τ) .tc r ∉ op.writes

/-- An operation that allocates nothing and writes the one buffer `y`, where `y` is none of the three, is quiet. -/
theorem quiet_of {op : HloOp τ sig (Elt F)} {y : Ref sig .tc} (hf : op.fresh = ∅)
    (hw : op.writes = {Proc.devRef (τ := τ) .tc y}) (h : y ∉ [main_arg0, main_v62, main_v63]) : Quiet op :=
  ⟨hf, fun r hr hm => by
    rw [hw, Finset.mem_singleton] at hm
    exact h (Proc.devRef_injective _ hm ▸ hr)⟩

/-- The weaker property of an operation before the region: it allocates nothing and does not write the argument array. -/
def QuietArg (op : HloOp τ sig (Elt F)) : Prop :=
  op.fresh = ∅ ∧ Proc.devRef (τ := τ) .tc main_arg0 ∉ op.writes

theorem quietArg_of {op : HloOp τ sig (Elt F)} {y : Ref sig .tc} (hf : op.fresh = ∅)
    (hw : op.writes = {Proc.devRef (τ := τ) .tc y}) (h : main_arg0 ≠ y) : QuietArg op :=
  ⟨hf, fun hm => by
    rw [hw, Finset.mem_singleton] at hm
    exact h (Proc.devRef_injective _ hm)⟩

end Cert.Kernel.Hand

end
-- ==== Proof.KFB_Q1.lean ====
/- TABLE, part 1 of 3: for each host segment of the program, every operation of the segment allocates nothing
   and writes none of the three buffers the frame watches (one line per operation; the argument is quiet_of). -/
import proofs.«111982_j16939351015723_2_alg».proof.Proof.KFB_Quiet

-- the longest segments are literal lists of up to 99 operations
set_option maxRecDepth 6412

noncomputable section

namespace Cert.Kernel.Hand

open Cert.Kernel.Gen
open Idealize.ShloMosaic Idealize.ShloMosaic.TcCoe
open Idealize.SL Idealize.SL.Sem

variable {F : FTy → Type} [FloatOps F]
/-- Each of the 99 operations before the region writes only its own result, never the argument array. -/
theorem quietArg_hostOps0 : (hostOps0 (F := F)).Forall QuietArg :=
  ⟨quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide)⟩
/-- Each of the 30 operation(s) of `hostOps1` writes only its own result, none of the three watched buffers. -/
theorem quiet_hostOps1 : (hostOps1 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_1` writes only its own result, none of the three watched buffers. -/
theorem quiet_hostOps1_1 : (hostOps1_1 (F := F)).Forall Quiet :=
  ⟨quiet_of rfl rfl (by decide), quiet_of rfl rfl (by decide), quiet_of rfl rfl (by decide)⟩
/-- Each of the 6 operation(s) of `hostOps1_2` writes only its own result, none of the three watched buffers. -/
theorem quiet_hostOps1_2 : (hostOps1_2 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_3` writes only its own result, none of the three watched buffers. -/
theorem quiet_hostOps1_3 : (hostOps1_3 (F := F)).Forall Quiet :=
  ⟨quiet_of rfl rfl (by decide), quiet_of rfl rfl (by decide), quiet_of rfl rfl (by decide)⟩
/-- Each of the 4 operation(s) of `hostOps1_4` writes only its own result, none of the three watched buffers. -/
theorem quiet_hostOps1_4 : (hostOps1_4 (F := F)).Forall Quiet :=
  ⟨quiet_of rfl rfl (by decide), quiet_of rfl rfl (by decide), quiet_of rfl rfl (by decide), quiet_of rfl rfl (by decide)⟩
/-- Each of the 3 operation(s) of `hostOps1_5` writes only its own result, none of the three watched buffers. -/
theorem quiet_hostOps1_5 : (hostOps1_5 (F := F)).Forall Quiet :=
  ⟨quiet_of rfl rfl (by decide), quiet_of rfl rfl (by decide), quiet_of rfl rfl (by decide)⟩
/-- Each of the 19 operation(s) of `hostOps1_6` writes only its own result, none of the three watched buffers. -/
theorem quiet_hostOps1_6 : (hostOps1_6 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_7` writes only its own result, none of the three watched buffers. -/
theorem quiet_hostOps1_7 : (hostOps1_7 (F := F)).Forall Quiet :=
  ⟨quiet_of rfl rfl (by decide), quiet_of rfl rfl (by decide), quiet_of rfl rfl (by decide)⟩
/-- Each of the 3 operation(s) of `hostOps1_8` writes only its own result, none of the three watched buffers. -/
theorem quiet_hostOps1_8 : (hostOps1_8 (F := F)).Forall Quiet :=
  ⟨quiet_of rfl rfl (by decide), quiet_of rfl rfl (by decide), quiet_of rfl rfl (by decide)⟩
/-- Each of the 16 operation(s) of `hostOps1_9` writes only its own result, none of the three watched buffers. -/
theorem quiet_hostOps1_9 : (hostOps1_9 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_10` writes only its own result, none of the three watched buffers. -/
theorem quiet_hostOps1_10 : (hostOps1_10 (F := F)).Forall Quiet :=
  ⟨quiet_of rfl rfl (by decide), quiet_of rfl rfl (by decide), quiet_of rfl rfl (by decide)⟩
/-- Each of the 3 operation(s) of `hostOps1_11` writes only its own result, none of the three watched buffers. -/
theorem quiet_hostOps1_11 : (hostOps1_11 (F := F)).Forall Quiet :=
  ⟨quiet_of rfl rfl (by decide), quiet_of rfl rfl (by decide), quiet_of rfl rfl (by decide)⟩
/-- Each of the 21 operation(s) of `hostOps1_12` writes only its own result, none of the three watched buffers. -/
theorem quiet_hostOps1_12 : (hostOps1_12 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_13` writes only its own result, none of the three watched buffers. -/
theorem quiet_hostOps1_13 : (hostOps1_13 (F := F)).Forall Quiet :=
  ⟨quiet_of rfl rfl (by decide), quiet_of rfl rfl (by decide), quiet_of rfl rfl (by decide)⟩
/-- Each of the 1 operation(s) of `hostOps1_14` writes only its own result, none of the three watched buffers. -/
theorem quiet_hostOps1_14 : (hostOps1_14 (F := F)).Forall Quiet :=
  quiet_of rfl rfl (by decide)
/-- Each of the 3 operation(s) of `hostOps1_15` writes only its own result, none of the three watched buffers. -/
theorem quiet_hostOps1_15 : (hostOps1_15 (F := F)).Forall Quiet :=
  ⟨quiet_of rfl rfl (by decide), quiet_of rfl rfl (by decide), quiet_of rfl rfl (by decide)⟩
/-- Each of the 4 operation(s) of `hostOps1_16` writes only its own result, none of the three watched buffers. -/
theorem quiet_hostOps1_16 : (hostOps1_16 (F := F)).Forall Quiet :=
  ⟨quiet_of rfl rfl (by decide), quiet_of rfl rfl (by decide), quiet_of rfl rfl (by decide), quiet_of rfl rfl (by decide)⟩
/-- Each of the 4 operation(s) of `hostOps1_17` writes only its own result, none of the three watched buffers. -/
theorem quiet_hostOps1_17 : (hostOps1_17 (F := F)).Forall Quiet :=
  ⟨quiet_of rfl rfl (by decide), quiet_of rfl rfl (by decide), quiet_of rfl rfl (by decide), quiet_of rfl rfl (by decide)⟩
/-- Each of the 32 operation(s) of `hostOps1_18` writes only its own result, none of the three watched buffers. -/
theorem quiet_hostOps1_18 : (hostOps1_18 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_19` writes only its own result, none of the three watched buffers. -/
theorem quiet_hostOps1_19 : (hostOps1_19 (F := F)).Forall Quiet :=
  ⟨quiet_of rfl rfl (by decide), quiet_of rfl rfl (by decide), quiet_of rfl rfl (by decide)⟩
/-- Each of the 5 operation(s) of `hostOps1_20` writes only its own result, none of the three watched buffers. -/
theorem quiet_hostOps1_20 : (hostOps1_20 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_21` writes only its own result, none of the three watched buffers. -/
theorem quiet_hostOps1_21 : (hostOps1_21 (F := F)).Forall Quiet :=
  ⟨quiet_of rfl rfl (by decide), quiet_of rfl rfl (by decide), quiet_of rfl rfl (by decide)⟩
/-- Each of the 14 operation(s) of `hostOps1_22` writes only its own result, none of the three watched buffers. -/
theorem quiet_hostOps1_22 : (hostOps1_22 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_23` writes only its own result, none of the three watched buffers. -/
theorem quiet_hostOps1_23 : (hostOps1_23 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_24` writes only its own result, none of the three watched buffers. -/
theorem quiet_hostOps1_24 : (hostOps1_24 (F := F)).Forall Quiet :=
  quiet_of rfl rfl (by decide)
/-- Each of the 3 operation(s) of `hostOps1_25` writes only its own result, none of the three watched buffers. -/
theorem quiet_hostOps1_25 : (hostOps1_25 (F := F)).Forall Quiet :=
  ⟨quiet_of rfl rfl (by decide), quiet_of rfl rfl (by decide), quiet_of rfl rfl (by decide)⟩
/-- Each of the 4 operation(s) of `hostOps1_26` writes only its own result, none of the three watched buffers. -/
theorem quiet_hostOps1_26 : (hostOps1_26 (F := F)).Forall Quiet :=
  ⟨quiet_of rfl rfl (by decide), quiet_of rfl rfl (by decide), quiet_of rfl rfl (by decide), quiet_of rfl rfl (by decide)⟩
/-- Each of the 17 operation(s) of `hostOps1_27` writes only its own result, none of the three watched buffers. -/
theorem quiet_hostOps1_27 : (hostOps1_27 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_28` writes only its own result, none of the three watched buffers. -/
theorem quiet_hostOps1_28 : (hostOps1_28 (F := F)).Forall Quiet :=
  quiet_of rfl rfl (by decide)
/-- Each of the 21 operation(s) of `hostOps1_29` writes only its own result, none of the three watched buffers. -/
theorem quiet_hostOps1_29 : (hostOps1_29 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_30` writes only its own result, none of the three watched buffers. -/
theorem quiet_hostOps1_30 : (hostOps1_30 (F := F)).Forall Quiet :=
  quiet_of rfl rfl (by decide)
/-- Each of the 3 operation(s) of `hostOps1_31` writes only its own result, none of the three watched buffers. -/
theorem quiet_hostOps1_31 : (hostOps1_31 (F := F)).Forall Quiet :=
  ⟨quiet_of rfl rfl (by decide), quiet_of rfl rfl (by decide), quiet_of rfl rfl (by decide)⟩
/-- Each of the 4 operation(s) of `hostOps1_32` writes only its own result, none of the three watched buffers. -/
theorem quiet_hostOps1_32 : (hostOps1_32 (F := F)).Forall Quiet :=
  ⟨quiet_of rfl rfl (by decide), quiet_of rfl rfl (by decide), quiet_of rfl rfl (by decide), quiet_of rfl rfl (by decide)⟩
/-- Each of the 21 operation(s) of `hostOps1_33` writes only its own result, none of the three watched buffers. -/
theorem quiet_hostOps1_33 : (hostOps1_33 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_34` writes only its own result, none of the three watched buffers. -/
theorem quiet_hostOps1_34 : (hostOps1_34 (F := F)).Forall Quiet :=
  quiet_of rfl rfl (by decide)
/-- Each of the 3 operation(s) of `hostOps1_35` writes only its own result, none of the three watched buffers. -/
theorem quiet_hostOps1_35 : (hostOps1_35 (F := F)).Forall Quiet :=
  ⟨quiet_of rfl rfl (by decide), quiet_of rfl rfl (by decide), quiet_of rfl rfl (by decide)⟩
/-- Each of the 36 operation(s) of `hostOps1_36` writes only its own result, none of the three watched buffers. -/
theorem quiet_hostOps1_36 : (hostOps1_36 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_37` writes only its own result, none of the three watched buffers. -/
theorem quiet_hostOps1_37 : (hostOps1_37 (F := F)).Forall Quiet :=
  ⟨quiet_of rfl rfl (by decide), quiet_of rfl rfl (by decide), quiet_of rfl rfl (by decide)⟩
/-- Each of the 6 operation(s) of `hostOps1_38` writes only its own result, none of the three watched buffers. -/
theorem quiet_hostOps1_38 : (hostOps1_38 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_39` writes only its own result, none of the three watched buffers. -/
theorem quiet_hostOps1_39 : (hostOps1_39 (F := F)).Forall Quiet :=
  ⟨quiet_of rfl rfl (by decide), quiet_of rfl rfl (by decide), quiet_of rfl rfl (by decide)⟩
/-- Each of the 4 operation(s) of `hostOps1_40` writes only its own result, none of the three watched buffers. -/
theorem quiet_hostOps1_40 : (hostOps1_40 (F := F)).Forall Quiet :=
  ⟨quiet_of rfl rfl (by decide), quiet_of rfl rfl (by decide), quiet_of rfl rfl (by decide), quiet_of rfl rfl (by decide)⟩
/-- Each of the 3 operation(s) of `hostOps1_41` writes only its own result, none of the three watched buffers. -/
theorem quiet_hostOps1_41 : (hostOps1_41 (F := F)).Forall Quiet :=
  ⟨quiet_of rfl rfl (by decide), quiet_of rfl rfl (by decide), quiet_of rfl rfl (by decide)⟩
/-- Each of the 19 operation(s) of `hostOps1_42` writes only its own result, none of the three watched buffers. -/
theorem quiet_hostOps1_42 : (hostOps1_42 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_43` writes only its own result, none of the three watched buffers. -/
theorem quiet_hostOps1_43 : (hostOps1_43 (F := F)).Forall Quiet :=
  ⟨quiet_of rfl rfl (by decide), quiet_of rfl rfl (by decide), quiet_of rfl rfl (by decide)⟩
/-- Each of the 3 operation(s) of `hostOps1_44` writes only its own result, none of the three watched buffers. -/
theorem quiet_hostOps1_44 : (hostOps1_44 (F := F)).Forall Quiet :=
  ⟨quiet_of rfl rfl (by decide), quiet_of rfl rfl (by decide), quiet_of rfl rfl (by decide)⟩
/-- Each of the 16 operation(s) of `hostOps1_45` writes only its own result, none of the three watched buffers. -/
theorem quiet_hostOps1_45 : (hostOps1_45 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_46` writes only its own result, none of the three watched buffers. -/
theorem quiet_hostOps1_46 : (hostOps1_46 (F := F)).Forall Quiet :=
  ⟨quiet_of rfl rfl (by decide), quiet_of rfl rfl (by decide), quiet_of rfl rfl (by decide)⟩
/-- Each of the 3 operation(s) of `hostOps1_47` writes only its own result, none of the three watched buffers. -/
theorem quiet_hostOps1_47 : (hostOps1_47 (F := F)).Forall Quiet :=
  ⟨quiet_of rfl rfl (by decide), quiet_of rfl rfl (by decide), quiet_of rfl rfl (by decide)⟩
/-- Each of the 21 operation(s) of `hostOps1_48` writes only its own result, none of the three watched buffers. -/
theorem quiet_hostOps1_48 : (hostOps1_48 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.Kernel.Hand

end
-- ==== Proof.KFB_Q2.lean ====
/- TABLE, part 2 of 3: for each host segment of the program, every operation of the segment allocates nothing
   and writes none of the three buffers the frame watches (one line per operation; the argument is quiet_of). -/
import proofs.«111982_j16939351015723_2_alg».proof.Proof.KFB_Quiet

-- the longest segments are literal lists of up to 99 operations
set_option maxRecDepth 6412

noncomputable section

namespace Cert.Kernel.Hand

open Cert.Kernel.Gen
open Idealize.ShloMosaic Idealize.ShloMosaic.TcCoe
open Idealize.SL Idealize.SL.Sem

variable {F : FTy → Type} [FloatOps F]
/-- Each of the 3 operation(s) of `hostOps1_49` writes only its own result, none of the three watched buffers. -/
theorem quiet_hostOps1_49 : (hostOps1_49 (F := F)).Forall Quiet :=
  ⟨quiet_of rfl rfl (by decide), quiet_of rfl rfl (by decide), quiet_of rfl rfl (by decide)⟩
/-- Each of the 1 operation(s) of `hostOps1_50` writes only its own result, none of the three watched buffers. -/
theorem quiet_hostOps1_50 : (hostOps1_50 (F := F)).Forall Quiet :=
  quiet_of rfl rfl (by decide)
/-- Each of the 3 operation(s) of `hostOps1_51` writes only its own result, none of the three watched buffers. -/
theorem quiet_hostOps1_51 : (hostOps1_51 (F := F)).Forall Quiet :=
  ⟨quiet_of rfl rfl (by decide), quiet_of rfl rfl (by decide), quiet_of rfl rfl (by decide)⟩
/-- Each of the 4 operation(s) of `hostOps1_52` writes only its own result, none of the three watched buffers. -/
theorem quiet_hostOps1_52 : (hostOps1_52 (F := F)).Forall Quiet :=
  ⟨quiet_of rfl rfl (by decide), quiet_of rfl rfl (by decide), quiet_of rfl rfl (by decide), quiet_of rfl rfl (by decide)⟩
/-- Each of the 4 operation(s) of `hostOps1_53` writes only its own result, none of the three watched buffers. -/
theorem quiet_hostOps1_53 : (hostOps1_53 (F := F)).Forall Quiet :=
  ⟨quiet_of rfl rfl (by decide), quiet_of rfl rfl (by decide), quiet_of rfl rfl (by decide), quiet_of rfl rfl (by decide)⟩
/-- Each of the 32 operation(s) of `hostOps1_54` writes only its own result, none of the three watched buffers. -/
theorem quiet_hostOps1_54 : (hostOps1_54 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_55` writes only its own result, none of the three watched buffers. -/
theorem quiet_hostOps1_55 : (hostOps1_55 (F := F)).Forall Quiet :=
  ⟨quiet_of rfl rfl (by decide), quiet_of rfl rfl (by decide), quiet_of rfl rfl (by decide)⟩
/-- Each of the 5 operation(s) of `hostOps1_56` writes only its own result, none of the three watched buffers. -/
theorem quiet_hostOps1_56 : (hostOps1_56 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_57` writes only its own result, none of the three watched buffers. -/
theorem quiet_hostOps1_57 : (hostOps1_57 (F := F)).Forall Quiet :=
  ⟨quiet_of rfl rfl (by decide), quiet_of rfl rfl (by decide), quiet_of rfl rfl (by decide)⟩
/-- Each of the 14 operation(s) of `hostOps1_58` writes only its own result, none of the three watched buffers. -/
theorem quiet_hostOps1_58 : (hostOps1_58 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_59` writes only its own result, none of the three watched buffers. -/
theorem quiet_hostOps1_59 : (hostOps1_59 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_60` writes only its own result, none of the three watched buffers. -/
theorem quiet_hostOps1_60 : (hostOps1_60 (F := F)).Forall Quiet :=
  quiet_of rfl rfl (by decide)
/-- Each of the 3 operation(s) of `hostOps1_61` writes only its own result, none of the three watched buffers. -/
theorem quiet_hostOps1_61 : (hostOps1_61 (F := F)).Forall Quiet :=
  ⟨quiet_of rfl rfl (by decide), quiet_of rfl rfl (by decide), quiet_of rfl rfl (by decide)⟩
/-- Each of the 4 operation(s) of `hostOps1_62` writes only its own result, none of the three watched buffers. -/
theorem quiet_hostOps1_62 : (hostOps1_62 (F := F)).Forall Quiet :=
  ⟨quiet_of rfl rfl (by decide), quiet_of rfl rfl (by decide), quiet_of rfl rfl (by decide), quiet_of rfl rfl (by decide)⟩
/-- Each of the 17 operation(s) of `hostOps1_63` writes only its own result, none of the three watched buffers. -/
theorem quiet_hostOps1_63 : (hostOps1_63 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_64` writes only its own result, none of the three watched buffers. -/
theorem quiet_hostOps1_64 : (hostOps1_64 (F := F)).Forall Quiet :=
  quiet_of rfl rfl (by decide)
/-- Each of the 21 operation(s) of `hostOps1_65` writes only its own result, none of the three watched buffers. -/
theorem quiet_hostOps1_65 : (hostOps1_65 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_66` writes only its own result, none of the three watched buffers. -/
theorem quiet_hostOps1_66 : (hostOps1_66 (F := F)).Forall Quiet :=
  quiet_of rfl rfl (by decide)
/-- Each of the 3 operation(s) of `hostOps1_67` writes only its own result, none of the three watched buffers. -/
theorem quiet_hostOps1_67 : (hostOps1_67 (F := F)).Forall Quiet :=
  ⟨quiet_of rfl rfl (by decide), quiet_of rfl rfl (by decide), quiet_of rfl rfl (by decide)⟩
/-- Each of the 4 operation(s) of `hostOps1_68` writes only its own result, none of the three watched buffers. -/
theorem quiet_hostOps1_68 : (hostOps1_68 (F := F)).Forall Quiet :=
  ⟨quiet_of rfl rfl (by decide), quiet_of rfl rfl (by decide), quiet_of rfl rfl (by decide), quiet_of rfl rfl (by decide)⟩
/-- Each of the 21 operation(s) of `hostOps1_69` writes only its own result, none of the three watched buffers. -/
theorem quiet_hostOps1_69 : (hostOps1_69 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_70` writes only its own result, none of the three watched buffers. -/
theorem quiet_hostOps1_70 : (hostOps1_70 (F := F)).Forall Quiet :=
  quiet_of rfl rfl (by decide)
/-- Each of the 3 operation(s) of `hostOps1_71` writes only its own result, none of the three watched buffers. -/
theorem quiet_hostOps1_71 : (hostOps1_71 (F := F)).Forall Quiet :=
  ⟨quiet_of rfl rfl (by decide), quiet_of rfl rfl (by decide), quiet_of rfl rfl (by decide)⟩
/-- Each of the 36 operation(s) of `hostOps1_72` writes only its own result, none of the three watched buffers. -/
theorem quiet_hostOps1_72 : (hostOps1_72 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_73` writes only its own result, none of the three watched buffers. -/
theorem quiet_hostOps1_73 : (hostOps1_73 (F := F)).Forall Quiet :=
  ⟨quiet_of rfl rfl (by decide), quiet_of rfl rfl (by decide), quiet_of rfl rfl (by decide)⟩
/-- Each of the 6 operation(s) of `hostOps1_74` writes only its own result, none of the three watched buffers. -/
theorem quiet_hostOps1_74 : (hostOps1_74 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_75` writes only its own result, none of the three watched buffers. -/
theorem quiet_hostOps1_75 : (hostOps1_75 (F := F)).Forall Quiet :=
  ⟨quiet_of rfl rfl (by decide), quiet_of rfl rfl (by decide), quiet_of rfl rfl (by decide)⟩
/-- Each of the 4 operation(s) of `hostOps1_76` writes only its own result, none of the three watched buffers. -/
theorem quiet_hostOps1_76 : (hostOps1_76 (F := F)).Forall Quiet :=
  ⟨quiet_of rfl rfl (by decide), quiet_of rfl rfl (by decide), quiet_of rfl rfl (by decide), quiet_of rfl rfl (by decide)⟩
/-- Each of the 3 operation(s) of `hostOps1_77` writes only its own result, none of the three watched buffers. -/
theorem quiet_hostOps1_77 : (hostOps1_77 (F := F)).Forall Quiet :=
  ⟨quiet_of rfl rfl (by decide), quiet_of rfl rfl (by decide), quiet_of rfl rfl (by decide)⟩
/-- Each of the 19 operation(s) of `hostOps1_78` writes only its own result, none of the three watched buffers. -/
theorem quiet_hostOps1_78 : (hostOps1_78 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_79` writes only its own result, none of the three watched buffers. -/
theorem quiet_hostOps1_79 : (hostOps1_79 (F := F)).Forall Quiet :=
  ⟨quiet_of rfl rfl (by decide), quiet_of rfl rfl (by decide), quiet_of rfl rfl (by decide)⟩
/-- Each of the 3 operation(s) of `hostOps1_80` writes only its own result, none of the three watched buffers. -/
theorem quiet_hostOps1_80 : (hostOps1_80 (F := F)).Forall Quiet :=
  ⟨quiet_of rfl rfl (by decide), quiet_of rfl rfl (by decide), quiet_of rfl rfl (by decide)⟩
/-- Each of the 16 operation(s) of `hostOps1_81` writes only its own result, none of the three watched buffers. -/
theorem quiet_hostOps1_81 : (hostOps1_81 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_82` writes only its own result, none of the three watched buffers. -/
theorem quiet_hostOps1_82 : (hostOps1_82 (F := F)).Forall Quiet :=
  ⟨quiet_of rfl rfl (by decide), quiet_of rfl rfl (by decide), quiet_of rfl rfl (by decide)⟩
/-- Each of the 3 operation(s) of `hostOps1_83` writes only its own result, none of the three watched buffers. -/
theorem quiet_hostOps1_83 : (hostOps1_83 (F := F)).Forall Quiet :=
  ⟨quiet_of rfl rfl (by decide), quiet_of rfl rfl (by decide), quiet_of rfl rfl (by decide)⟩
/-- Each of the 21 operation(s) of `hostOps1_84` writes only its own result, none of the three watched buffers. -/
theorem quiet_hostOps1_84 : (hostOps1_84 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_85` writes only its own result, none of the three watched buffers. -/
theorem quiet_hostOps1_85 : (hostOps1_85 (F := F)).Forall Quiet :=
  ⟨quiet_of rfl rfl (by decide), quiet_of rfl rfl (by decide), quiet_of rfl rfl (by decide)⟩
/-- Each of the 1 operation(s) of `hostOps1_86` writes only its own result, none of the three watched buffers. -/
theorem quiet_hostOps1_86 : (hostOps1_86 (F := F)).Forall Quiet :=
  quiet_of rfl rfl (by decide)
/-- Each of the 3 operation(s) of `hostOps1_87` writes only its own result, none of the three watched buffers. -/
theorem quiet_hostOps1_87 : (hostOps1_87 (F := F)).Forall Quiet :=
  ⟨quiet_of rfl rfl (by decide), quiet_of rfl rfl (by decide), quiet_of rfl rfl (by decide)⟩
/-- Each of the 4 operation(s) of `hostOps1_88` writes only its own result, none of the three watched buffers. -/
theorem quiet_hostOps1_88 : (hostOps1_88 (F := F)).Forall Quiet :=
  ⟨quiet_of rfl rfl (by decide), quiet_of rfl rfl (by decide), quiet_of rfl rfl (by decide), quiet_of rfl rfl (by decide)⟩
/-- Each of the 4 operation(s) of `hostOps1_89` writes only its own result, none of the three watched buffers. -/
theorem quiet_hostOps1_89 : (hostOps1_89 (F := F)).Forall Quiet :=
  ⟨quiet_of rfl rfl (by decide), quiet_of rfl rfl (by decide), quiet_of rfl rfl (by decide), quiet_of rfl rfl (by decide)⟩
/-- Each of the 32 operation(s) of `hostOps1_90` writes only its own result, none of the three watched buffers. -/
theorem quiet_hostOps1_90 : (hostOps1_90 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_91` writes only its own result, none of the three watched buffers. -/
theorem quiet_hostOps1_91 : (hostOps1_91 (F := F)).Forall Quiet :=
  ⟨quiet_of rfl rfl (by decide), quiet_of rfl rfl (by decide), quiet_of rfl rfl (by decide)⟩
/-- Each of the 5 operation(s) of `hostOps1_92` writes only its own result, none of the three watched buffers. -/
theorem quiet_hostOps1_92 : (hostOps1_92 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_93` writes only its own result, none of the three watched buffers. -/
theorem quiet_hostOps1_93 : (hostOps1_93 (F := F)).Forall Quiet :=
  ⟨quiet_of rfl rfl (by decide), quiet_of rfl rfl (by decide), quiet_of rfl rfl (by decide)⟩
/-- Each of the 14 operation(s) of `hostOps1_94` writes only its own result, none of the three watched buffers. -/
theorem quiet_hostOps1_94 : (hostOps1_94 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_95` writes only its own result, none of the three watched buffers. -/
theorem quiet_hostOps1_95 : (hostOps1_95 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.Kernel.Hand

end
-- ==== Proof.KFB_Q3.lean ====
/- TABLE, part 3 of 3: for each host segment of the program, every operation of the segment allocates nothing
   and writes none of the three buffers the frame watches (one line per operation; the argument is quiet_of). -/
import proofs.«111982_j16939351015723_2_alg».proof.Proof.KFB_Quiet

-- the longest segments are literal lists of up to 99 operations
set_option maxRecDepth 6412

noncomputable section

namespace Cert.Kernel.Hand

open Cert.Kernel.Gen
open Idealize.ShloMosaic Idealize.ShloMosaic.TcCoe
open Idealize.SL Idealize.SL.Sem

variable {F : FTy → Type} [FloatOps F]
/-- Each of the 1 operation(s) of `hostOps1_96` writes only its own result, none of the three watched buffers. -/
theorem quiet_hostOps1_96 : (hostOps1_96 (F := F)).Forall Quiet :=
  quiet_of rfl rfl (by decide)
/-- Each of the 3 operation(s) of `hostOps1_97` writes only its own result, none of the three watched buffers. -/
theorem quiet_hostOps1_97 : (hostOps1_97 (F := F)).Forall Quiet :=
  ⟨quiet_of rfl rfl (by decide), quiet_of rfl rfl (by decide), quiet_of rfl rfl (by decide)⟩
/-- Each of the 4 operation(s) of `hostOps1_98` writes only its own result, none of the three watched buffers. -/
theorem quiet_hostOps1_98 : (hostOps1_98 (F := F)).Forall Quiet :=
  ⟨quiet_of rfl rfl (by decide), quiet_of rfl rfl (by decide), quiet_of rfl rfl (by decide), quiet_of rfl rfl (by decide)⟩
/-- Each of the 17 operation(s) of `hostOps1_99` writes only its own result, none of the three watched buffers. -/
theorem quiet_hostOps1_99 : (hostOps1_99 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_100` writes only its own result, none of the three watched buffers. -/
theorem quiet_hostOps1_100 : (hostOps1_100 (F := F)).Forall Quiet :=
  quiet_of rfl rfl (by decide)
/-- Each of the 21 operation(s) of `hostOps1_101` writes only its own result, none of the three watched buffers. -/
theorem quiet_hostOps1_101 : (hostOps1_101 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_102` writes only its own result, none of the three watched buffers. -/
theorem quiet_hostOps1_102 : (hostOps1_102 (F := F)).Forall Quiet :=
  quiet_of rfl rfl (by decide)
/-- Each of the 3 operation(s) of `hostOps1_103` writes only its own result, none of the three watched buffers. -/
theorem quiet_hostOps1_103 : (hostOps1_103 (F := F)).Forall Quiet :=
  ⟨quiet_of rfl rfl (by decide), quiet_of rfl rfl (by decide), quiet_of rfl rfl (by decide)⟩
/-- Each of the 4 operation(s) of `hostOps1_104` writes only its own result, none of the three watched buffers. -/
theorem quiet_hostOps1_104 : (hostOps1_104 (F := F)).Forall Quiet :=
  ⟨quiet_of rfl rfl (by decide), quiet_of rfl rfl (by decide), quiet_of rfl rfl (by decide), quiet_of rfl rfl (by decide)⟩
/-- Each of the 21 operation(s) of `hostOps1_105` writes only its own result, none of the three watched buffers. -/
theorem quiet_hostOps1_105 : (hostOps1_105 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_106` writes only its own result, none of the three watched buffers. -/
theorem quiet_hostOps1_106 : (hostOps1_106 (F := F)).Forall Quiet :=
  quiet_of rfl rfl (by decide)
/-- Each of the 3 operation(s) of `hostOps1_107` writes only its own result, none of the three watched buffers. -/
theorem quiet_hostOps1_107 : (hostOps1_107 (F := F)).Forall Quiet :=
  ⟨quiet_of rfl rfl (by decide), quiet_of rfl rfl (by decide), quiet_of rfl rfl (by decide)⟩
/-- Each of the 36 operation(s) of `hostOps1_108` writes only its own result, none of the three watched buffers. -/
theorem quiet_hostOps1_108 : (hostOps1_108 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_109` writes only its own result, none of the three watched buffers. -/
theorem quiet_hostOps1_109 : (hostOps1_109 (F := F)).Forall Quiet :=
  ⟨quiet_of rfl rfl (by decide), quiet_of rfl rfl (by decide), quiet_of rfl rfl (by decide)⟩
/-- Each of the 6 operation(s) of `hostOps1_110` writes only its own result, none of the three watched buffers. -/
theorem quiet_hostOps1_110 : (hostOps1_110 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_111` writes only its own result, none of the three watched buffers. -/
theorem quiet_hostOps1_111 : (hostOps1_111 (F := F)).Forall Quiet :=
  ⟨quiet_of rfl rfl (by decide), quiet_of rfl rfl (by decide), quiet_of rfl rfl (by decide)⟩
/-- Each of the 4 operation(s) of `hostOps1_112` writes only its own result, none of the three watched buffers. -/
theorem quiet_hostOps1_112 : (hostOps1_112 (F := F)).Forall Quiet :=
  ⟨quiet_of rfl rfl (by decide), quiet_of rfl rfl (by decide), quiet_of rfl rfl (by decide), quiet_of rfl rfl (by decide)⟩
/-- Each of the 3 operation(s) of `hostOps1_113` writes only its own result, none of the three watched buffers. -/
theorem quiet_hostOps1_113 : (hostOps1_113 (F := F)).Forall Quiet :=
  ⟨quiet_of rfl rfl (by decide), quiet_of rfl rfl (by decide), quiet_of rfl rfl (by decide)⟩
/-- Each of the 19 operation(s) of `hostOps1_114` writes only its own result, none of the three watched buffers. -/
theorem quiet_hostOps1_114 : (hostOps1_114 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_115` writes only its own result, none of the three watched buffers. -/
theorem quiet_hostOps1_115 : (hostOps1_115 (F := F)).Forall Quiet :=
  ⟨quiet_of rfl rfl (by decide), quiet_of rfl rfl (by decide), quiet_of rfl rfl (by decide)⟩
/-- Each of the 3 operation(s) of `hostOps1_116` writes only its own result, none of the three watched buffers. -/
theorem quiet_hostOps1_116 : (hostOps1_116 (F := F)).Forall Quiet :=
  ⟨quiet_of rfl rfl (by decide), quiet_of rfl rfl (by decide), quiet_of rfl rfl (by decide)⟩
/-- Each of the 16 operation(s) of `hostOps1_117` writes only its own result, none of the three watched buffers. -/
theorem quiet_hostOps1_117 : (hostOps1_117 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_118` writes only its own result, none of the three watched buffers. -/
theorem quiet_hostOps1_118 : (hostOps1_118 (F := F)).Forall Quiet :=
  ⟨quiet_of rfl rfl (by decide), quiet_of rfl rfl (by decide), quiet_of rfl rfl (by decide)⟩
/-- Each of the 3 operation(s) of `hostOps1_119` writes only its own result, none of the three watched buffers. -/
theorem quiet_hostOps1_119 : (hostOps1_119 (F := F)).Forall Quiet :=
  ⟨quiet_of rfl rfl (by decide), quiet_of rfl rfl (by decide), quiet_of rfl rfl (by decide)⟩
/-- Each of the 21 operation(s) of `hostOps1_120` writes only its own result, none of the three watched buffers. -/
theorem quiet_hostOps1_120 : (hostOps1_120 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_121` writes only its own result, none of the three watched buffers. -/
theorem quiet_hostOps1_121 : (hostOps1_121 (F := F)).Forall Quiet :=
  ⟨quiet_of rfl rfl (by decide), quiet_of rfl rfl (by decide), quiet_of rfl rfl (by decide)⟩
/-- Each of the 1 operation(s) of `hostOps1_122` writes only its own result, none of the three watched buffers. -/
theorem quiet_hostOps1_122 : (hostOps1_122 (F := F)).Forall Quiet :=
  quiet_of rfl rfl (by decide)
/-- Each of the 3 operation(s) of `hostOps1_123` writes only its own result, none of the three watched buffers. -/
theorem quiet_hostOps1_123 : (hostOps1_123 (F := F)).Forall Quiet :=
  ⟨quiet_of rfl rfl (by decide), quiet_of rfl rfl (by decide), quiet_of rfl rfl (by decide)⟩
/-- Each of the 4 operation(s) of `hostOps1_124` writes only its own result, none of the three watched buffers. -/
theorem quiet_hostOps1_124 : (hostOps1_124 (F := F)).Forall Quiet :=
  ⟨quiet_of rfl rfl (by decide), quiet_of rfl rfl (by decide), quiet_of rfl rfl (by decide), quiet_of rfl rfl (by decide)⟩
/-- Each of the 4 operation(s) of `hostOps1_125` writes only its own result, none of the three watched buffers. -/
theorem quiet_hostOps1_125 : (hostOps1_125 (F := F)).Forall Quiet :=
  ⟨quiet_of rfl rfl (by decide), quiet_of rfl rfl (by decide), quiet_of rfl rfl (by decide), quiet_of rfl rfl (by decide)⟩
/-- Each of the 32 operation(s) of `hostOps1_126` writes only its own result, none of the three watched buffers. -/
theorem quiet_hostOps1_126 : (hostOps1_126 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_127` writes only its own result, none of the three watched buffers. -/
theorem quiet_hostOps1_127 : (hostOps1_127 (F := F)).Forall Quiet :=
  ⟨quiet_of rfl rfl (by decide), quiet_of rfl rfl (by decide), quiet_of rfl rfl (by decide)⟩
/-- Each of the 5 operation(s) of `hostOps1_128` writes only its own result, none of the three watched buffers. -/
theorem quiet_hostOps1_128 : (hostOps1_128 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_129` writes only its own result, none of the three watched buffers. -/
theorem quiet_hostOps1_129 : (hostOps1_129 (F := F)).Forall Quiet :=
  ⟨quiet_of rfl rfl (by decide), quiet_of rfl rfl (by decide), quiet_of rfl rfl (by decide)⟩
/-- Each of the 14 operation(s) of `hostOps1_130` writes only its own result, none of the three watched buffers. -/
theorem quiet_hostOps1_130 : (hostOps1_130 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_131` writes only its own result, none of the three watched buffers. -/
theorem quiet_hostOps1_131 : (hostOps1_131 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_132` writes only its own result, none of the three watched buffers. -/
theorem quiet_hostOps1_132 : (hostOps1_132 (F := F)).Forall Quiet :=
  quiet_of rfl rfl (by decide)
/-- Each of the 3 operation(s) of `hostOps1_133` writes only its own result, none of the three watched buffers. -/
theorem quiet_hostOps1_133 : (hostOps1_133 (F := F)).Forall Quiet :=
  ⟨quiet_of rfl rfl (by decide), quiet_of rfl rfl (by decide), quiet_of rfl rfl (by decide)⟩
/-- Each of the 4 operation(s) of `hostOps1_134` writes only its own result, none of the three watched buffers. -/
theorem quiet_hostOps1_134 : (hostOps1_134 (F := F)).Forall Quiet :=
  ⟨quiet_of rfl rfl (by decide), quiet_of rfl rfl (by decide), quiet_of rfl rfl (by decide), quiet_of rfl rfl (by decide)⟩
/-- Each of the 17 operation(s) of `hostOps1_135` writes only its own result, none of the three watched buffers. -/
theorem quiet_hostOps1_135 : (hostOps1_135 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_136` writes only its own result, none of the three watched buffers. -/
theorem quiet_hostOps1_136 : (hostOps1_136 (F := F)).Forall Quiet :=
  quiet_of rfl rfl (by decide)
/-- Each of the 21 operation(s) of `hostOps1_137` writes only its own result, none of the three watched buffers. -/
theorem quiet_hostOps1_137 : (hostOps1_137 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_138` writes only its own result, none of the three watched buffers. -/
theorem quiet_hostOps1_138 : (hostOps1_138 (F := F)).Forall Quiet :=
  quiet_of rfl rfl (by decide)
/-- Each of the 3 operation(s) of `hostOps1_139` writes only its own result, none of the three watched buffers. -/
theorem quiet_hostOps1_139 : (hostOps1_139 (F := F)).Forall Quiet :=
  ⟨quiet_of rfl rfl (by decide), quiet_of rfl rfl (by decide), quiet_of rfl rfl (by decide)⟩
/-- Each of the 4 operation(s) of `hostOps1_140` writes only its own result, none of the three watched buffers. -/
theorem quiet_hostOps1_140 : (hostOps1_140 (F := F)).Forall Quiet :=
  ⟨quiet_of rfl rfl (by decide), quiet_of rfl rfl (by decide), quiet_of rfl rfl (by decide), quiet_of rfl rfl (by decide)⟩
/-- Each of the 21 operation(s) of `hostOps1_141` writes only its own result, none of the three watched buffers. -/
theorem quiet_hostOps1_141 : (hostOps1_141 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_142` writes only its own result, none of the three watched buffers. -/
theorem quiet_hostOps1_142 : (hostOps1_142 (F := F)).Forall Quiet :=
  quiet_of rfl rfl (by decide)
/-- Each of the 3 operation(s) of `hostOps1_143` writes only its own result, none of the three watched buffers. -/
theorem quiet_hostOps1_143 : (hostOps1_143 (F := F)).Forall Quiet :=
  ⟨quiet_of rfl rfl (by decide), quiet_of rfl rfl (by decide), quiet_of rfl rfl (by decide)⟩
/-- Each of the 10 operation(s) of `hostOps1_144` writes only its own result, none of the three watched buffers. -/
theorem quiet_hostOps1_144 : (hostOps1_144 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.Kernel.Hand

end
-- ==== Proof.KFB_TailOps.lean ====
/- TABLE: the list of the host segments after the region, and the per-segment facts gathered over that list. -/
import proofs.«111982_j16939351015723_2_alg».proof.Proof.KFB_Q1
import proofs.«111982_j16939351015723_2_alg».proof.Proof.KFB_Q2
import proofs.«111982_j16939351015723_2_alg».proof.Proof.KFB_Q3

-- the longest segments are literal lists of up to 99 operations
set_option maxRecDepth 6412

noncomputable section

namespace Cert.Kernel.Hand

open Cert.Kernel.Gen
open Idealize.ShloMosaic Idealize.ShloMosaic.TcCoe
open Idealize.SL Idealize.SL.Sem

variable {F : FTy → Type} [FloatOps F]
/-- The host segments after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144]

/-- Every operation of every segment of the tail is quiet. -/
theorem tail_quiet_all : (tailOps (F := F)).Forall fun ops => ops.Forall Quiet :=
  ⟨quiet_hostOps1, quiet_hostOps1_1, quiet_hostOps1_2, quiet_hostOps1_3, quiet_hostOps1_4, quiet_hostOps1_5, quiet_hostOps1_6, quiet_hostOps1_7, quiet_hostOps1_8, quiet_hostOps1_9, quiet_hostOps1_10, quiet_hostOps1_11, quiet_hostOps1_12, quiet_hostOps1_13, quiet_hostOps1_14, quiet_hostOps1_15, quiet_hostOps1_16, quiet_hostOps1_17, quiet_hostOps1_18, quiet_hostOps1_19, quiet_hostOps1_20, quiet_hostOps1_21, quiet_hostOps1_22, quiet_hostOps1_23, quiet_hostOps1_24, quiet_hostOps1_25, quiet_hostOps1_26, quiet_hostOps1_27, quiet_hostOps1_28, quiet_hostOps1_29, quiet_hostOps1_30, quiet_hostOps1_31, quiet_hostOps1_32, quiet_hostOps1_33, quiet_hostOps1_34, quiet_hostOps1_35, quiet_hostOps1_36, quiet_hostOps1_37, quiet_hostOps1_38, quiet_hostOps1_39, quiet_hostOps1_40, quiet_hostOps1_41, quiet_hostOps1_42, quiet_hostOps1_43, quiet_hostOps1_44, quiet_hostOps1_45, quiet_hostOps1_46, quiet_hostOps1_47, quiet_hostOps1_48, quiet_hostOps1_49, quiet_hostOps1_50, quiet_hostOps1_51, quiet_hostOps1_52, quiet_hostOps1_53, quiet_hostOps1_54, quiet_hostOps1_55, quiet_hostOps1_56, quiet_hostOps1_57, quiet_hostOps1_58, quiet_hostOps1_59, quiet_hostOps1_60, quiet_hostOps1_61, quiet_hostOps1_62, quiet_hostOps1_63, quiet_hostOps1_64, quiet_hostOps1_65, quiet_hostOps1_66, quiet_hostOps1_67, quiet_hostOps1_68, quiet_hostOps1_69, quiet_hostOps1_70, quiet_hostOps1_71, quiet_hostOps1_72, quiet_hostOps1_73, quiet_hostOps1_74, quiet_hostOps1_75, quiet_hostOps1_76, quiet_hostOps1_77, quiet_hostOps1_78, quiet_hostOps1_79, quiet_hostOps1_80, quiet_hostOps1_81, quiet_hostOps1_82, quiet_hostOps1_83, quiet_hostOps1_84, quiet_hostOps1_85, quiet_hostOps1_86, quiet_hostOps1_87, quiet_hostOps1_88, quiet_hostOps1_89, quiet_hostOps1_90, quiet_hostOps1_91, quiet_hostOps1_92, quiet_hostOps1_93, quiet_hostOps1_94, quiet_hostOps1_95, quiet_hostOps1_96, quiet_hostOps1_97, quiet_hostOps1_98, quiet_hostOps1_99, quiet_hostOps1_100, quiet_hostOps1_101, quiet_hostOps1_102, quiet_hostOps1_103, quiet_hostOps1_104, quiet_hostOps1_105, quiet_hostOps1_106, quiet_hostOps1_107, quiet_hostOps1_108, quiet_hostOps1_109, quiet_hostOps1_110, quiet_hostOps1_111, quiet_hostOps1_112, quiet_hostOps1_113, quiet_hostOps1_114, quiet_hostOps1_115, quiet_hostOps1_116, quiet_hostOps1_117, quiet_hostOps1_118, quiet_hostOps1_119, quiet_hostOps1_120, quiet_hostOps1_121, quiet_hostOps1_122, quiet_hostOps1_123, quiet_hostOps1_124, quiet_hostOps1_125, quiet_hostOps1_126, quiet_hostOps1_127, quiet_hostOps1_128, quiet_hostOps1_129, quiet_hostOps1_130, quiet_hostOps1_131, quiet_hostOps1_132, quiet_hostOps1_133, quiet_hostOps1_134, quiet_hostOps1_135, quiet_hostOps1_136, quiet_hostOps1_137, quiet_hostOps1_138, quiet_hostOps1_139, quiet_hostOps1_140, quiet_hostOps1_141, quiet_hostOps1_142, quiet_hostOps1_143, quiet_hostOps1_144⟩

/-- Every operation of every segment of the tail touches TensorCore references only. -/
theorem tail_sub_all : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub, hostOps1_76_sub, hostOps1_77_sub, hostOps1_78_sub, hostOps1_79_sub, hostOps1_80_sub, hostOps1_81_sub, hostOps1_82_sub, hostOps1_83_sub, hostOps1_84_sub, hostOps1_85_sub, hostOps1_86_sub, hostOps1_87_sub, hostOps1_88_sub, hostOps1_89_sub, hostOps1_90_sub, hostOps1_91_sub, hostOps1_92_sub, hostOps1_93_sub, hostOps1_94_sub, hostOps1_95_sub, hostOps1_96_sub, hostOps1_97_sub, hostOps1_98_sub, hostOps1_99_sub, hostOps1_100_sub, hostOps1_101_sub, hostOps1_102_sub, hostOps1_103_sub, hostOps1_104_sub, hostOps1_105_sub, hostOps1_106_sub, hostOps1_107_sub, hostOps1_108_sub, hostOps1_109_sub, hostOps1_110_sub, hostOps1_111_sub, hostOps1_112_sub, hostOps1_113_sub, hostOps1_114_sub, hostOps1_115_sub, hostOps1_116_sub, hostOps1_117_sub, hostOps1_118_sub, hostOps1_119_sub, hostOps1_120_sub, hostOps1_121_sub, hostOps1_122_sub, hostOps1_123_sub, hostOps1_124_sub, hostOps1_125_sub, hostOps1_126_sub, hostOps1_127_sub, hostOps1_128_sub, hostOps1_129_sub, hostOps1_130_sub, hostOps1_131_sub, hostOps1_132_sub, hostOps1_133_sub, hostOps1_134_sub, hostOps1_135_sub, hostOps1_136_sub, hostOps1_137_sub, hostOps1_138_sub, hostOps1_139_sub, hostOps1_140_sub, hostOps1_141_sub, hostOps1_142_sub, hostOps1_143_sub, hostOps1_144_sub⟩

end Cert.Kernel.Hand

end
-- ==== Proof.KFB_Tail.lean ====
import proofs.«111982_j16939351015723_2_alg».proof.Proof.KFB_TailOps
import Idealize.ShloMosaic.Lib.Pipeline.FrameSuffix

noncomputable section

namespace Cert.Kernel.Hand

open Cert.Kernel.Gen
open Idealize.ShloMosaic Idealize.ShloMosaic.TcCoe
open Idealize.SL Idealize.SL.Sem

variable {F : FTy → Type} [FloatOps F]

/-! ## The host segments after the region, operation by operation

From the per-segment tables (every operation quiet) to the three side conditions of the frame run around the region,
stated over membership in the list of segments, and to "no operation after the region writes the argument array". -/

/-- Every operation of every segment after the region is quiet. -/
theorem tail_quiet : ∀ ops ∈ (tailOps (F := F)), ∀ op ∈ ops, Quiet op := fun ops hops op hop =>
  List.forall_iff_forall_mem.mp (List.forall_iff_forall_mem.mp tail_quiet_all ops hops) op hop

/-- The operations after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (List.forall_iff_forall_mem.mp (List.forall_iff_forall_mem.mp tail_sub_all ops hops) op hop)

/-- They allocate nothing. -/
theorem sfx_fresh : ∀ ops ∈ (tailOps : List (List (HloOp τ sig (Elt F)))), ∀ op ∈ ops, op.fresh = ∅ :=
  fun ops hops op hop => (tail_quiet ops hops op hop).1

/-- And they write no array of the pipeline: the input array is `main_v62`, the output array `main_v63`. -/
theorem sfx_keeps : ∀ ops ∈ (tailOps : List (List (HloOp τ sig (Elt F)))), ∀ op ∈ ops,
    ∀ w, Proc.devRef .tc (Pipeline.arrRef spec0 w) ∉ op.writes := by
  intro ops hops op hop w
  have q := (tail_quiet ops hops op hop).2
  fin_cases w
  · exact q main_v62 (List.mem_cons_of_mem _ List.mem_cons_self)
  · exact q main_v63 (List.mem_cons_of_mem _ (List.mem_cons_of_mem _ List.mem_cons_self))

/-- No operation after the region writes the argument array. -/
theorem tail_keeps_arg0 : ∀ op ∈ (tailOps (F := F)).flatten, Proc.devRef (τ := τ) .tc main_arg0 ∉ op.writes :=
  fun op hop => by
    obtain ⟨ops, hops, hop'⟩ := List.mem_flatten.mp hop
    exact (tail_quiet ops hops op hop').2 main_arg0 List.mem_cons_self

/-- The operations before the region allocate nothing, -/
theorem hostOps0_fresh : (hostOps0 : List (HloOp τ sig (Elt F))).Forall fun op => op.fresh = ∅ :=
  List.forall_iff_forall_mem.mpr fun op hop => (List.forall_iff_forall_mem.mp quietArg_hostOps0 op hop).1

/-- and none of them writes the argument array. -/
theorem hostOps0_keeps_arg0 : ∀ op ∈ (hostOps0 (F := F)), Proc.devRef (τ := τ) .tc main_arg0 ∉ op.writes :=
  fun op hop => (List.forall_iff_forall_mem.mp quietArg_hostOps0 op hop).2

end Cert.Kernel.Hand

end
-- ==== Proof.KFrameBits.lean ====
import proofs.«111982_j16939351015723_2_alg».proof.Proof.KFB_Body
import proofs.«111982_j16939351015723_2_alg».proof.Proof.KFB_Tail
import proofs.«111982_j16939351015723_2_alg».proof.Proof.Gen.Kernel.Launch
import proofs.«111982_j16939351015723_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

-- the program as a chain of its 147 items is compared item by item with the chain built from the two lists of segments
set_option maxRecDepth 16384 in
/-- @main around the region: the host operations before it, the region, the host segments after it — it reduces to the
    region CONTINUED BY the later segments. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    obtain rfl := List.mem_singleton.mp hops
    exact hostOps0_keeps_arg0 op hop')

/-- No host operation after the region writes `main_arg0`, and it is no array of the pipeline: it ends as launched,
    whatever the proof data. -/
theorem W_main_arg0_of (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for ANY proof
    data whose array is `V`'s (`hA`) and whose body leaves the block in place (`hafter`): the window is uncut and
    never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post — read at the
    argument array, which no window stages: the post's second clause, then `W_main_arg0_of` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0_of m dats c))) h

/-! ## The pipeline's proof data -/

/-- The proof data of the one pipeline on core `c`: the arrays as the region finds them (`V`); after the body at
    point `t` the input's buffer at its block and the output's at `out0_1` of the input block; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents `V`, by the definition of the proof data. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- No host operation after the region writes `main_arg0`: it ends as launched. -/
theorem W_main_arg0 (c : Dev nD) :
    Pipeline.afterTail₀ cfgs (dats m) 0 (V0 m) tailOps c main_arg0 = m ((c : Thread nD τ).loc main_arg0) :=
  W_main_arg0_of m (dats m) c

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library's frame run around a region, at this program's configuration, proof data and region-entry contents
set_option backward.isDefEq.respectTransparency.types false in
/-- At the compiled mesh, for any values, from any memory with zero counters: every weakly fair execution of @main on the
    TensorCores terminates, and every final state has every array of the pipeline at what the library computes from the
    proof data and every other unscoped buffer as the host segments after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME: @main runs and the argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KFI_Body.lean ====
import proofs.«111982_j16939351015723_2_alg».proof.Proof.Gen.KernelIdeal.Skeleton
import proofs.«111982_j16939351015723_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

The body reads its input window's whole staging buffer once and writes its output window's whole staging buffer once:
both through the unit rectangle at offset zero whose sizes are the buffer's own. -/

/-- The whole input block, as the rectangle of the body's one load. -/
abbrev rIn : Rect S1x3x300000 := Rect.unit (s := S1x3x300000) ![0, 0, 0] S1x3x300000.size inb_S1x3x300000_S1x3x300000_0_0_0
/-- The whole output block, as the rectangle of the body's one store (and of its unused load). -/
abbrev rOut : Rect S1x1x300000 := Rect.unit (s := S1x1x300000) ![0, 0, 0] S1x1x300000.size inb_S1x1x300000_S1x1x300000_0_0_0

/-- The offsets of both rectangles are zero on every axis. -/
theorem hz3 : (![0, 0, 0] : Fin 3 → Nat) = fun _ => 0 := by
  funext a; fin_cases a <;> rfl

/-! ## What the body leaves in the output window's buffer -/

/-- The output window's staging buffer after the body, from the input window's block `x0`: its one store as a
    one-piece list; the stored value is the voxel code computed from the three coordinate rows of `x0`
    (`k0_pay3`: the first cell index, `k0_pay6`: the in-range mask, `k0_pay7`: the combined second and third index). -/
def out0_1 (x0 : Vec F S1x3x300000 .f32) : Vec F S1x1x300000 .i32 :=
  View.canon ([⟨rOut, k0_pay1 (k0_pay3 (View.ld x0 rIn)) (k0_pay6 (View.ld x0 rIn)) (k0_pay7 (View.ld x0 rIn))⟩] :
    List (View.Piece (Elt F) S1x1x300000 .i32))

/-- The one store covers the buffer: its rectangle is the whole shape. -/
theorem cover0_1 (p0 : Vec F S1x1x300000 .i32) (y : S1x1x300000.Idx) :
    ∃ pc ∈ ([⟨rOut, p0⟩] : List (View.Piece (Elt F) S1x1x300000 .i32)), y ∈ pc.1.set :=
  ⟨_, List.mem_singleton_self _, View.mem_set_unit_zero (S := S1x1x300000) hz3 inb_S1x1x300000_S1x1x300000_0_0_0 y⟩

/-- So the buffer holds exactly the stored value, computed from the block itself. -/
theorem out0_1_eq (x0 : Vec F S1x3x300000 .f32) :
    out0_1 x0 = k0_pay1 (k0_pay3 x0) (k0_pay6 x0) (k0_pay7 x0) := by
  unfold out0_1
  rw [View.canon_unit_zero (S := S1x1x300000) hz3 inb_S1x1x300000_S1x1x300000_0_0_0]
  simp only [View.ld_unit_zero (S := S1x3x300000) hz3 inb_S1x3x300000_S1x3x300000_0_0_0]

/-! ## The body's triple -/

set_option maxHeartbeats 1000000 in
/-- The kernel body on whole staging memrefs, the input's at read contents `x0` and the output's at anything, runs to
    the continuation holding the input's as it was and the output's at `out0_1 x0`: the load of the input block, the
    unused load of the output block (any contents will do), the store of the computed block. -/
theorem sound_kernel (c : Dev nD) (E : Set ℕ) (i : grid0.Coords) (arg1 : Memref sig .tc .vmem S1x3x300000 .f32) (harg1 : arg1.IsWhole)
    (arg2 : Memref sig .tc .vmem S1x1x300000 .i32) (harg2 : arg2.IsWhole)
    (x0 : Vec F S1x3x300000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__lin_kernel i arg1 harg1 arg2 harg2) K := by
  simp only [cc0__lin_kernel_eq_skeleton]; unfold cc0__lin_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.KernelIdeal.Hand

end
-- ==== Proof.KFI_Quiet.lean ====
import proofs.«111982_j16939351015723_2_alg».proof.Proof.Gen.KernelIdeal.Launch
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Host operations that leave the frame's buffers alone

Every host operation of the program writes exactly one buffer, its result, and allocates nothing. So it leaves a given
buffer as it was as soon as its result is another buffer — a comparison of two references, decided. -/

/-- A host operation is QUIET when it allocates nothing and writes none of the three buffers the frame watches: the
    argument array and the two arrays of the pipeline (its input `main_v62` and its output `main_v63`). -/
def Quiet (op : HloOp τ sig (Elt F)) : Prop :=
  op.fresh = ∅ ∧ ∀ r ∈ [main_arg0, main_v62, main_v63], Proc.devRef (τ := τ) .tc r ∉ op.writes

/-- An operation that allocates nothing and writes the one buffer `y`, where `y` is none of the three, is quiet. -/
theorem quiet_of {op : HloOp τ sig (Elt F)} {y : Ref sig .tc} (hf : op.fresh = ∅)
    (hw : op.writes = {Proc.devRef (τ := τ) .tc y}) (h : y ∉ [main_arg0, main_v62, main_v63]) : Quiet op :=
  ⟨hf, fun r hr hm => by
    rw [hw, Finset.mem_singleton] at hm
    exact h (Proc.devRef_injective _ hm ▸ hr)⟩

/-- The weaker property of an operation before the region: it allocates nothing and does not write the argument array. -/
def QuietArg (op : HloOp τ sig (Elt F)) : Prop :=
  op.fresh = ∅ ∧ Proc.devRef (τ := τ) .tc main_arg0 ∉ op.writes

theorem quietArg_of {op : HloOp τ sig (Elt F)} {y : Ref sig .tc} (hf : op.fresh = ∅)
    (hw : op.writes = {Proc.devRef (τ := τ) .tc y}) (h : main_arg0 ≠ y) : QuietArg op :=
  ⟨hf, fun hm => by
    rw [hw, Finset.mem_singleton] at hm
    exact h (Proc.devRef_injective _ hm)⟩

end Cert.KernelIdeal.Hand

end
-- ==== Proof.KFI_Q1.lean ====
/- TABLE, part 1 of 3: for each host segment of the program, every operation of the segment allocates nothing
   and writes none of the three buffers the frame watches (one line per operation; the argument is quiet_of). -/
import proofs.«111982_j16939351015723_2_alg».proof.Proof.KFI_Quiet

-- the longest segments are literal lists of up to 99 operations
set_option maxRecDepth 6412

noncomputable section

namespace Cert.KernelIdeal.Hand

open Cert.KernelIdeal.Gen
open Idealize.ShloMosaic Idealize.ShloMosaic.TcCoe
open Idealize.SL Idealize.SL.Sem

variable {F : FTy → Type} [FloatOps F]
/-- Each of the 99 operations before the region writes only its own result, never the argument array. -/
theorem quietArg_hostOps0 : (hostOps0 (F := F)).Forall QuietArg :=
  ⟨quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide), quietArg_of rfl rfl (by decide)⟩
/-- Each of the 30 operation(s) of `hostOps1` writes only its own result, none of the three watched buffers. -/
theorem quiet_hostOps1 : (hostOps1 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_1` writes only its own result, none of the three watched buffers. -/
theorem quiet_hostOps1_1 : (hostOps1_1 (F := F)).Forall Quiet :=
  ⟨quiet_of rfl rfl (by decide), quiet_of rfl rfl (by decide), quiet_of rfl rfl (by decide)⟩
/-- Each of the 6 operation(s) of `hostOps1_2` writes only its own result, none of the three watched buffers. -/
theorem quiet_hostOps1_2 : (hostOps1_2 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_3` writes only its own result, none of the three watched buffers. -/
theorem quiet_hostOps1_3 : (hostOps1_3 (F := F)).Forall Quiet :=
  ⟨quiet_of rfl rfl (by decide), quiet_of rfl rfl (by decide), quiet_of rfl rfl (by decide)⟩
/-- Each of the 4 operation(s) of `hostOps1_4` writes only its own result, none of the three watched buffers. -/
theorem quiet_hostOps1_4 : (hostOps1_4 (F := F)).Forall Quiet :=
  ⟨quiet_of rfl rfl (by decide), quiet_of rfl rfl (by decide), quiet_of rfl rfl (by decide), quiet_of rfl rfl (by decide)⟩
/-- Each of the 3 operation(s) of `hostOps1_5` writes only its own result, none of the three watched buffers. -/
theorem quiet_hostOps1_5 : (hostOps1_5 (F := F)).Forall Quiet :=
  ⟨quiet_of rfl rfl (by decide), quiet_of rfl rfl (by decide), quiet_of rfl rfl (by decide)⟩
/-- Each of the 19 operation(s) of `hostOps1_6` writes only its own result, none of the three watched buffers. -/
theorem quiet_hostOps1_6 : (hostOps1_6 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_7` writes only its own result, none of the three watched buffers. -/
theorem quiet_hostOps1_7 : (hostOps1_7 (F := F)).Forall Quiet :=
  ⟨quiet_of rfl rfl (by decide), quiet_of rfl rfl (by decide), quiet_of rfl rfl (by decide)⟩
/-- Each of the 3 operation(s) of `hostOps1_8` writes only its own result, none of the three watched buffers. -/
theorem quiet_hostOps1_8 : (hostOps1_8 (F := F)).Forall Quiet :=
  ⟨quiet_of rfl rfl (by decide), quiet_of rfl rfl (by decide), quiet_of rfl rfl (by decide)⟩
/-- Each of the 16 operation(s) of `hostOps1_9` writes only its own result, none of the three watched buffers. -/
theorem quiet_hostOps1_9 : (hostOps1_9 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_10` writes only its own result, none of the three watched buffers. -/
theorem quiet_hostOps1_10 : (hostOps1_10 (F := F)).Forall Quiet :=
  ⟨quiet_of rfl rfl (by decide), quiet_of rfl rfl (by decide), quiet_of rfl rfl (by decide)⟩
/-- Each of the 3 operation(s) of `hostOps1_11` writes only its own result, none of the three watched buffers. -/
theorem quiet_hostOps1_11 : (hostOps1_11 (F := F)).Forall Quiet :=
  ⟨quiet_of rfl rfl (by decide), quiet_of rfl rfl (by decide), quiet_of rfl rfl (by decide)⟩
/-- Each of the 21 operation(s) of `hostOps1_12` writes only its own result, none of the three watched buffers. -/
theorem quiet_hostOps1_12 : (hostOps1_12 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_13` writes only its own result, none of the three watched buffers. -/
theorem quiet_hostOps1_13 : (hostOps1_13 (F := F)).Forall Quiet :=
  ⟨quiet_of rfl rfl (by decide), quiet_of rfl rfl (by decide), quiet_of rfl rfl (by decide)⟩
/-- Each of the 1 operation(s) of `hostOps1_14` writes only its own result, none of the three watched buffers. -/
theorem quiet_hostOps1_14 : (hostOps1_14 (F := F)).Forall Quiet :=
  quiet_of rfl rfl (by decide)
/-- Each of the 3 operation(s) of `hostOps1_15` writes only its own result, none of the three watched buffers. -/
theorem quiet_hostOps1_15 : (hostOps1_15 (F := F)).Forall Quiet :=
  ⟨quiet_of rfl rfl (by decide), quiet_of rfl rfl (by decide), quiet_of rfl rfl (by decide)⟩
/-- Each of the 4 operation(s) of `hostOps1_16` writes only its own result, none of the three watched buffers. -/
theorem quiet_hostOps1_16 : (hostOps1_16 (F := F)).Forall Quiet :=
  ⟨quiet_of rfl rfl (by decide), quiet_of rfl rfl (by decide), quiet_of rfl rfl (by decide), quiet_of rfl rfl (by decide)⟩
/-- Each of the 4 operation(s) of `hostOps1_17` writes only its own result, none of the three watched buffers. -/
theorem quiet_hostOps1_17 : (hostOps1_17 (F := F)).Forall Quiet :=
  ⟨quiet_of rfl rfl (by decide), quiet_of rfl rfl (by decide), quiet_of rfl rfl (by decide), quiet_of rfl rfl (by decide)⟩
/-- Each of the 32 operation(s) of `hostOps1_18` writes only its own result, none of the three watched buffers. -/
theorem quiet_hostOps1_18 : (hostOps1_18 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_19` writes only its own result, none of the three watched buffers. -/
theorem quiet_hostOps1_19 : (hostOps1_19 (F := F)).Forall Quiet :=
  ⟨quiet_of rfl rfl (by decide), quiet_of rfl rfl (by decide), quiet_of rfl rfl (by decide)⟩
/-- Each of the 5 operation(s) of `hostOps1_20` writes only its own result, none of the three watched buffers. -/
theorem quiet_hostOps1_20 : (hostOps1_20 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_21` writes only its own result, none of the three watched buffers. -/
theorem quiet_hostOps1_21 : (hostOps1_21 (F := F)).Forall Quiet :=
  ⟨quiet_of rfl rfl (by decide), quiet_of rfl rfl (by decide), quiet_of rfl rfl (by decide)⟩
/-- Each of the 14 operation(s) of `hostOps1_22` writes only its own result, none of the three watched buffers. -/
theorem quiet_hostOps1_22 : (hostOps1_22 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_23` writes only its own result, none of the three watched buffers. -/
theorem quiet_hostOps1_23 : (hostOps1_23 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_24` writes only its own result, none of the three watched buffers. -/
theorem quiet_hostOps1_24 : (hostOps1_24 (F := F)).Forall Quiet :=
  quiet_of rfl rfl (by decide)
/-- Each of the 3 operation(s) of `hostOps1_25` writes only its own result, none of the three watched buffers. -/
theorem quiet_hostOps1_25 : (hostOps1_25 (F := F)).Forall Quiet :=
  ⟨quiet_of rfl rfl (by decide), quiet_of rfl rfl (by decide), quiet_of rfl rfl (by decide)⟩
/-- Each of the 4 operation(s) of `hostOps1_26` writes only its own result, none of the three watched buffers. -/
theorem quiet_hostOps1_26 : (hostOps1_26 (F := F)).Forall Quiet :=
  ⟨quiet_of rfl rfl (by decide), quiet_of rfl rfl (by decide), quiet_of rfl rfl (by decide), quiet_of rfl rfl (by decide)⟩
/-- Each of the 17 operation(s) of `hostOps1_27` writes only its own result, none of the three watched buffers. -/
theorem quiet_hostOps1_27 : (hostOps1_27 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_28` writes only its own result, none of the three watched buffers. -/
theorem quiet_hostOps1_28 : (hostOps1_28 (F := F)).Forall Quiet :=
  quiet_of rfl rfl (by decide)
/-- Each of the 21 operation(s) of `hostOps1_29` writes only its own result, none of the three watched buffers. -/
theorem quiet_hostOps1_29 : (hostOps1_29 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_30` writes only its own result, none of the three watched buffers. -/
theorem quiet_hostOps1_30 : (hostOps1_30 (F := F)).Forall Quiet :=
  quiet_of rfl rfl (by decide)
/-- Each of the 3 operation(s) of `hostOps1_31` writes only its own result, none of the three watched buffers. -/
theorem quiet_hostOps1_31 : (hostOps1_31 (F := F)).Forall Quiet :=
  ⟨quiet_of rfl rfl (by decide), quiet_of rfl rfl (by decide), quiet_of rfl rfl (by decide)⟩
/-- Each of the 4 operation(s) of `hostOps1_32` writes only its own result, none of the three watched buffers. -/
theorem quiet_hostOps1_32 : (hostOps1_32 (F := F)).Forall Quiet :=
  ⟨quiet_of rfl rfl (by decide), quiet_of rfl rfl (by decide), quiet_of rfl rfl (by decide), quiet_of rfl rfl (by decide)⟩
/-- Each of the 21 operation(s) of `hostOps1_33` writes only its own result, none of the three watched buffers. -/
theorem quiet_hostOps1_33 : (hostOps1_33 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_34` writes only its own result, none of the three watched buffers. -/
theorem quiet_hostOps1_34 : (hostOps1_34 (F := F)).Forall Quiet :=
  quiet_of rfl rfl (by decide)
/-- Each of the 3 operation(s) of `hostOps1_35` writes only its own result, none of the three watched buffers. -/
theorem quiet_hostOps1_35 : (hostOps1_35 (F := F)).Forall Quiet :=
  ⟨quiet_of rfl rfl (by decide), quiet_of rfl rfl (by decide), quiet_of rfl rfl (by decide)⟩
/-- Each of the 36 operation(s) of `hostOps1_36` writes only its own result, none of the three watched buffers. -/
theorem quiet_hostOps1_36 : (hostOps1_36 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_37` writes only its own result, none of the three watched buffers. -/
theorem quiet_hostOps1_37 : (hostOps1_37 (F := F)).Forall Quiet :=
  ⟨quiet_of rfl rfl (by decide), quiet_of rfl rfl (by decide), quiet_of rfl rfl (by decide)⟩
/-- Each of the 6 operation(s) of `hostOps1_38` writes only its own result, none of the three watched buffers. -/
theorem quiet_hostOps1_38 : (hostOps1_38 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_39` writes only its own result, none of the three watched buffers. -/
theorem quiet_hostOps1_39 : (hostOps1_39 (F := F)).Forall Quiet :=
  ⟨quiet_of rfl rfl (by decide), quiet_of rfl rfl (by decide), quiet_of rfl rfl (by decide)⟩
/-- Each of the 4 operation(s) of `hostOps1_40` writes only its own result, none of the three watched buffers. -/
theorem quiet_hostOps1_40 : (hostOps1_40 (F := F)).Forall Quiet :=
  ⟨quiet_of rfl rfl (by decide), quiet_of rfl rfl (by decide), quiet_of rfl rfl (by decide), quiet_of rfl rfl (by decide)⟩
/-- Each of the 3 operation(s) of `hostOps1_41` writes only its own result, none of the three watched buffers. -/
theorem quiet_hostOps1_41 : (hostOps1_41 (F := F)).Forall Quiet :=
  ⟨quiet_of rfl rfl (by decide), quiet_of rfl rfl (by decide), quiet_of rfl rfl (by decide)⟩
/-- Each of the 19 operation(s) of `hostOps1_42` writes only its own result, none of the three watched buffers. -/
theorem quiet_hostOps1_42 : (hostOps1_42 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_43` writes only its own result, none of the three watched buffers. -/
theorem quiet_hostOps1_43 : (hostOps1_43 (F := F)).Forall Quiet :=
  ⟨quiet_of rfl rfl (by decide), quiet_of rfl rfl (by decide), quiet_of rfl rfl (by decide)⟩
/-- Each of the 3 operation(s) of `hostOps1_44` writes only its own result, none of the three watched buffers. -/
theorem quiet_hostOps1_44 : (hostOps1_44 (F := F)).Forall Quiet :=
  ⟨quiet_of rfl rfl (by decide), quiet_of rfl rfl (by decide), quiet_of rfl rfl (by decide)⟩
/-- Each of the 16 operation(s) of `hostOps1_45` writes only its own result, none of the three watched buffers. -/
theorem quiet_hostOps1_45 : (hostOps1_45 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_46` writes only its own result, none of the three watched buffers. -/
theorem quiet_hostOps1_46 : (hostOps1_46 (F := F)).Forall Quiet :=
  ⟨quiet_of rfl rfl (by decide), quiet_of rfl rfl (by decide), quiet_of rfl rfl (by decide)⟩
/-- Each of the 3 operation(s) of `hostOps1_47` writes only its own result, none of the three watched buffers. -/
theorem quiet_hostOps1_47 : (hostOps1_47 (F := F)).Forall Quiet :=
  ⟨quiet_of rfl rfl (by decide), quiet_of rfl rfl (by decide), quiet_of rfl rfl (by decide)⟩
/-- Each of the 21 operation(s) of `hostOps1_48` writes only its own result, none of the three watched buffers. -/
theorem quiet_hostOps1_48 : (hostOps1_48 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.KernelIdeal.Hand

end
-- ==== Proof.KFI_Q2.lean ====
/- TABLE, part 2 of 3: for each host segment of the program, every operation of the segment allocates nothing
   and writes none of the three buffers the frame watches (one line per operation; the argument is quiet_of). -/
import proofs.«111982_j16939351015723_2_alg».proof.Proof.KFI_Quiet

-- the longest segments are literal lists of up to 99 operations
set_option maxRecDepth 6412

noncomputable section

namespace Cert.KernelIdeal.Hand

open Cert.KernelIdeal.Gen
open Idealize.ShloMosaic Idealize.ShloMosaic.TcCoe
open Idealize.SL Idealize.SL.Sem

variable {F : FTy → Type} [FloatOps F]
/-- Each of the 3 operation(s) of `hostOps1_49` writes only its own result, none of the three watched buffers. -/
theorem quiet_hostOps1_49 : (hostOps1_49 (F := F)).Forall Quiet :=
  ⟨quiet_of rfl rfl (by decide), quiet_of rfl rfl (by decide), quiet_of rfl rfl (by decide)⟩
/-- Each of the 1 operation(s) of `hostOps1_50` writes only its own result, none of the three watched buffers. -/
theorem quiet_hostOps1_50 : (hostOps1_50 (F := F)).Forall Quiet :=
  quiet_of rfl rfl (by decide)
/-- Each of the 3 operation(s) of `hostOps1_51` writes only its own result, none of the three watched buffers. -/
theorem quiet_hostOps1_51 : (hostOps1_51 (F := F)).Forall Quiet :=
  ⟨quiet_of rfl rfl (by decide), quiet_of rfl rfl (by decide), quiet_of rfl rfl (by decide)⟩
/-- Each of the 4 operation(s) of `hostOps1_52` writes only its own result, none of the three watched buffers. -/
theorem quiet_hostOps1_52 : (hostOps1_52 (F := F)).Forall Quiet :=
  ⟨quiet_of rfl rfl (by decide), quiet_of rfl rfl (by decide), quiet_of rfl rfl (by decide), quiet_of rfl rfl (by decide)⟩
/-- Each of the 4 operation(s) of `hostOps1_53` writes only its own result, none of the three watched buffers. -/
theorem quiet_hostOps1_53 : (hostOps1_53 (F := F)).Forall Quiet :=
  ⟨quiet_of rfl rfl (by decide), quiet_of rfl rfl (by decide), quiet_of rfl rfl (by decide), quiet_of rfl rfl (by decide)⟩
/-- Each of the 32 operation(s) of `hostOps1_54` writes only its own result, none of the three watched buffers. -/
theorem quiet_hostOps1_54 : (hostOps1_54 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_55` writes only its own result, none of the three watched buffers. -/
theorem quiet_hostOps1_55 : (hostOps1_55 (F := F)).Forall Quiet :=
  ⟨quiet_of rfl rfl (by decide), quiet_of rfl rfl (by decide), quiet_of rfl rfl (by decide)⟩
/-- Each of the 5 operation(s) of `hostOps1_56` writes only its own result, none of the three watched buffers. -/
theorem quiet_hostOps1_56 : (hostOps1_56 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_57` writes only its own result, none of the three watched buffers. -/
theorem quiet_hostOps1_57 : (hostOps1_57 (F := F)).Forall Quiet :=
  ⟨quiet_of rfl rfl (by decide), quiet_of rfl rfl (by decide), quiet_of rfl rfl (by decide)⟩
/-- Each of the 14 operation(s) of `hostOps1_58` writes only its own result, none of the three watched buffers. -/
theorem quiet_hostOps1_58 : (hostOps1_58 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_59` writes only its own result, none of the three watched buffers. -/
theorem quiet_hostOps1_59 : (hostOps1_59 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_60` writes only its own result, none of the three watched buffers. -/
theorem quiet_hostOps1_60 : (hostOps1_60 (F := F)).Forall Quiet :=
  quiet_of rfl rfl (by decide)
/-- Each of the 3 operation(s) of `hostOps1_61` writes only its own result, none of the three watched buffers. -/
theorem quiet_hostOps1_61 : (hostOps1_61 (F := F)).Forall Quiet :=
  ⟨quiet_of rfl rfl (by decide), quiet_of rfl rfl (by decide), quiet_of rfl rfl (by decide)⟩
/-- Each of the 4 operation(s) of `hostOps1_62` writes only its own result, none of the three watched buffers. -/
theorem quiet_hostOps1_62 : (hostOps1_62 (F := F)).Forall Quiet :=
  ⟨quiet_of rfl rfl (by decide), quiet_of rfl rfl (by decide), quiet_of rfl rfl (by decide), quiet_of rfl rfl (by decide)⟩
/-- Each of the 17 operation(s) of `hostOps1_63` writes only its own result, none of the three watched buffers. -/
theorem quiet_hostOps1_63 : (hostOps1_63 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_64` writes only its own result, none of the three watched buffers. -/
theorem quiet_hostOps1_64 : (hostOps1_64 (F := F)).Forall Quiet :=
  quiet_of rfl rfl (by decide)
/-- Each of the 21 operation(s) of `hostOps1_65` writes only its own result, none of the three watched buffers. -/
theorem quiet_hostOps1_65 : (hostOps1_65 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_66` writes only its own result, none of the three watched buffers. -/
theorem quiet_hostOps1_66 : (hostOps1_66 (F := F)).Forall Quiet :=
  quiet_of rfl rfl (by decide)
/-- Each of the 3 operation(s) of `hostOps1_67` writes only its own result, none of the three watched buffers. -/
theorem quiet_hostOps1_67 : (hostOps1_67 (F := F)).Forall Quiet :=
  ⟨quiet_of rfl rfl (by decide), quiet_of rfl rfl (by decide), quiet_of rfl rfl (by decide)⟩
/-- Each of the 4 operation(s) of `hostOps1_68` writes only its own result, none of the three watched buffers. -/
theorem quiet_hostOps1_68 : (hostOps1_68 (F := F)).Forall Quiet :=
  ⟨quiet_of rfl rfl (by decide), quiet_of rfl rfl (by decide), quiet_of rfl rfl (by decide), quiet_of rfl rfl (by decide)⟩
/-- Each of the 21 operation(s) of `hostOps1_69` writes only its own result, none of the three watched buffers. -/
theorem quiet_hostOps1_69 : (hostOps1_69 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_70` writes only its own result, none of the three watched buffers. -/
theorem quiet_hostOps1_70 : (hostOps1_70 (F := F)).Forall Quiet :=
  quiet_of rfl rfl (by decide)
/-- Each of the 3 operation(s) of `hostOps1_71` writes only its own result, none of the three watched buffers. -/
theorem quiet_hostOps1_71 : (hostOps1_71 (F := F)).Forall Quiet :=
  ⟨quiet_of rfl rfl (by decide), quiet_of rfl rfl (by decide), quiet_of rfl rfl (by decide)⟩
/-- Each of the 36 operation(s) of `hostOps1_72` writes only its own result, none of the three watched buffers. -/
theorem quiet_hostOps1_72 : (hostOps1_72 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_73` writes only its own result, none of the three watched buffers. -/
theorem quiet_hostOps1_73 : (hostOps1_73 (F := F)).Forall Quiet :=
  ⟨quiet_of rfl rfl (by decide), quiet_of rfl rfl (by decide), quiet_of rfl rfl (by decide)⟩
/-- Each of the 6 operation(s) of `hostOps1_74` writes only its own result, none of the three watched buffers. -/
theorem quiet_hostOps1_74 : (hostOps1_74 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_75` writes only its own result, none of the three watched buffers. -/
theorem quiet_hostOps1_75 : (hostOps1_75 (F := F)).Forall Quiet :=
  ⟨quiet_of rfl rfl (by decide), quiet_of rfl rfl (by decide), quiet_of rfl rfl (by decide)⟩
/-- Each of the 4 operation(s) of `hostOps1_76` writes only its own result, none of the three watched buffers. -/
theorem quiet_hostOps1_76 : (hostOps1_76 (F := F)).Forall Quiet :=
  ⟨quiet_of rfl rfl (by decide), quiet_of rfl rfl (by decide), quiet_of rfl rfl (by decide), quiet_of rfl rfl (by decide)⟩
/-- Each of the 3 operation(s) of `hostOps1_77` writes only its own result, none of the three watched buffers. -/
theorem quiet_hostOps1_77 : (hostOps1_77 (F := F)).Forall Quiet :=
  ⟨quiet_of rfl rfl (by decide), quiet_of rfl rfl (by decide), quiet_of rfl rfl (by decide)⟩
/-- Each of the 19 operation(s) of `hostOps1_78` writes only its own result, none of the three watched buffers. -/
theorem quiet_hostOps1_78 : (hostOps1_78 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_79` writes only its own result, none of the three watched buffers. -/
theorem quiet_hostOps1_79 : (hostOps1_79 (F := F)).Forall Quiet :=
  ⟨quiet_of rfl rfl (by decide), quiet_of rfl rfl (by decide), quiet_of rfl rfl (by decide)⟩
/-- Each of the 3 operation(s) of `hostOps1_80` writes only its own result, none of the three watched buffers. -/
theorem quiet_hostOps1_80 : (hostOps1_80 (F := F)).Forall Quiet :=
  ⟨quiet_of rfl rfl (by decide), quiet_of rfl rfl (by decide), quiet_of rfl rfl (by decide)⟩
/-- Each of the 16 operation(s) of `hostOps1_81` writes only its own result, none of the three watched buffers. -/
theorem quiet_hostOps1_81 : (hostOps1_81 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_82` writes only its own result, none of the three watched buffers. -/
theorem quiet_hostOps1_82 : (hostOps1_82 (F := F)).Forall Quiet :=
  ⟨quiet_of rfl rfl (by decide), quiet_of rfl rfl (by decide), quiet_of rfl rfl (by decide)⟩
/-- Each of the 3 operation(s) of `hostOps1_83` writes only its own result, none of the three watched buffers. -/
theorem quiet_hostOps1_83 : (hostOps1_83 (F := F)).Forall Quiet :=
  ⟨quiet_of rfl rfl (by decide), quiet_of rfl rfl (by decide), quiet_of rfl rfl (by decide)⟩
/-- Each of the 21 operation(s) of `hostOps1_84` writes only its own result, none of the three watched buffers. -/
theorem quiet_hostOps1_84 : (hostOps1_84 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_85` writes only its own result, none of the three watched buffers. -/
theorem quiet_hostOps1_85 : (hostOps1_85 (F := F)).Forall Quiet :=
  ⟨quiet_of rfl rfl (by decide), quiet_of rfl rfl (by decide), quiet_of rfl rfl (by decide)⟩
/-- Each of the 1 operation(s) of `hostOps1_86` writes only its own result, none of the three watched buffers. -/
theorem quiet_hostOps1_86 : (hostOps1_86 (F := F)).Forall Quiet :=
  quiet_of rfl rfl (by decide)
/-- Each of the 3 operation(s) of `hostOps1_87` writes only its own result, none of the three watched buffers. -/
theorem quiet_hostOps1_87 : (hostOps1_87 (F := F)).Forall Quiet :=
  ⟨quiet_of rfl rfl (by decide), quiet_of rfl rfl (by decide), quiet_of rfl rfl (by decide)⟩
/-- Each of the 4 operation(s) of `hostOps1_88` writes only its own result, none of the three watched buffers. -/
theorem quiet_hostOps1_88 : (hostOps1_88 (F := F)).Forall Quiet :=
  ⟨quiet_of rfl rfl (by decide), quiet_of rfl rfl (by decide), quiet_of rfl rfl (by decide), quiet_of rfl rfl (by decide)⟩
/-- Each of the 4 operation(s) of `hostOps1_89` writes only its own result, none of the three watched buffers. -/
theorem quiet_hostOps1_89 : (hostOps1_89 (F := F)).Forall Quiet :=
  ⟨quiet_of rfl rfl (by decide), quiet_of rfl rfl (by decide), quiet_of rfl rfl (by decide), quiet_of rfl rfl (by decide)⟩
/-- Each of the 32 operation(s) of `hostOps1_90` writes only its own result, none of the three watched buffers. -/
theorem quiet_hostOps1_90 : (hostOps1_90 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_91` writes only its own result, none of the three watched buffers. -/
theorem quiet_hostOps1_91 : (hostOps1_91 (F := F)).Forall Quiet :=
  ⟨quiet_of rfl rfl (by decide), quiet_of rfl rfl (by decide), quiet_of rfl rfl (by decide)⟩
/-- Each of the 5 operation(s) of `hostOps1_92` writes only its own result, none of the three watched buffers. -/
theorem quiet_hostOps1_92 : (hostOps1_92 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_93` writes only its own result, none of the three watched buffers. -/
theorem quiet_hostOps1_93 : (hostOps1_93 (F := F)).Forall Quiet :=
  ⟨quiet_of rfl rfl (by decide), quiet_of rfl rfl (by decide), quiet_of rfl rfl (by decide)⟩
/-- Each of the 14 operation(s) of `hostOps1_94` writes only its own result, none of the three watched buffers. -/
theorem quiet_hostOps1_94 : (hostOps1_94 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_95` writes only its own result, none of the three watched buffers. -/
theorem quiet_hostOps1_95 : (hostOps1_95 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.KernelIdeal.Hand

end
-- ==== Proof.KFI_Q3.lean ====
/- TABLE, part 3 of 3: for each host segment of the program, every operation of the segment allocates nothing
   and writes none of the three buffers the frame watches (one line per operation; the argument is quiet_of). -/
import proofs.«111982_j16939351015723_2_alg».proof.Proof.KFI_Quiet

-- the longest segments are literal lists of up to 99 operations
set_option maxRecDepth 6412

noncomputable section

namespace Cert.KernelIdeal.Hand

open Cert.KernelIdeal.Gen
open Idealize.ShloMosaic Idealize.ShloMosaic.TcCoe
open Idealize.SL Idealize.SL.Sem

variable {F : FTy → Type} [FloatOps F]
/-- Each of the 1 operation(s) of `hostOps1_96` writes only its own result, none of the three watched buffers. -/
theorem quiet_hostOps1_96 : (hostOps1_96 (F := F)).Forall Quiet :=
  quiet_of rfl rfl (by decide)
/-- Each of the 3 operation(s) of `hostOps1_97` writes only its own result, none of the three watched buffers. -/
theorem quiet_hostOps1_97 : (hostOps1_97 (F := F)).Forall Quiet :=
  ⟨quiet_of rfl rfl (by decide), quiet_of rfl rfl (by decide), quiet_of rfl rfl (by decide)⟩
/-- Each of the 4 operation(s) of `hostOps1_98` writes only its own result, none of the three watched buffers. -/
theorem quiet_hostOps1_98 : (hostOps1_98 (F := F)).Forall Quiet :=
  ⟨quiet_of rfl rfl (by decide), quiet_of rfl rfl (by decide), quiet_of rfl rfl (by decide), quiet_of rfl rfl (by decide)⟩
/-- Each of the 17 operation(s) of `hostOps1_99` writes only its own result, none of the three watched buffers. -/
theorem quiet_hostOps1_99 : (hostOps1_99 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_100` writes only its own result, none of the three watched buffers. -/
theorem quiet_hostOps1_100 : (hostOps1_100 (F := F)).Forall Quiet :=
  quiet_of rfl rfl (by decide)
/-- Each of the 21 operation(s) of `hostOps1_101` writes only its own result, none of the three watched buffers. -/
theorem quiet_hostOps1_101 : (hostOps1_101 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_102` writes only its own result, none of the three watched buffers. -/
theorem quiet_hostOps1_102 : (hostOps1_102 (F := F)).Forall Quiet :=
  quiet_of rfl rfl (by decide)
/-- Each of the 3 operation(s) of `hostOps1_103` writes only its own result, none of the three watched buffers. -/
theorem quiet_hostOps1_103 : (hostOps1_103 (F := F)).Forall Quiet :=
  ⟨quiet_of rfl rfl (by decide), quiet_of rfl rfl (by decide), quiet_of rfl rfl (by decide)⟩
/-- Each of the 4 operation(s) of `hostOps1_104` writes only its own result, none of the three watched buffers. -/
theorem quiet_hostOps1_104 : (hostOps1_104 (F := F)).Forall Quiet :=
  ⟨quiet_of rfl rfl (by decide), quiet_of rfl rfl (by decide), quiet_of rfl rfl (by decide), quiet_of rfl rfl (by decide)⟩
/-- Each of the 21 operation(s) of `hostOps1_105` writes only its own result, none of the three watched buffers. -/
theorem quiet_hostOps1_105 : (hostOps1_105 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_106` writes only its own result, none of the three watched buffers. -/
theorem quiet_hostOps1_106 : (hostOps1_106 (F := F)).Forall Quiet :=
  quiet_of rfl rfl (by decide)
/-- Each of the 3 operation(s) of `hostOps1_107` writes only its own result, none of the three watched buffers. -/
theorem quiet_hostOps1_107 : (hostOps1_107 (F := F)).Forall Quiet :=
  ⟨quiet_of rfl rfl (by decide), quiet_of rfl rfl (by decide), quiet_of rfl rfl (by decide)⟩
/-- Each of the 36 operation(s) of `hostOps1_108` writes only its own result, none of the three watched buffers. -/
theorem quiet_hostOps1_108 : (hostOps1_108 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_109` writes only its own result, none of the three watched buffers. -/
theorem quiet_hostOps1_109 : (hostOps1_109 (F := F)).Forall Quiet :=
  ⟨quiet_of rfl rfl (by decide), quiet_of rfl rfl (by decide), quiet_of rfl rfl (by decide)⟩
/-- Each of the 6 operation(s) of `hostOps1_110` writes only its own result, none of the three watched buffers. -/
theorem quiet_hostOps1_110 : (hostOps1_110 (F := F)).Forall Quiet :=
  ⟨quiet_of rfl rfl (by decide), quiet_of rfl rfl (by decide), quiet_of rfl rfl (by decide), quiet_of rfl rfl (by decide), quiet_of rfl rfl (by decide), quiet_of rfl rfl (by decide)⟩
/-- Each of the 3 operation(s) of `hostOps1_111` writes only its own result, none of the three watched buffers. -/
theorem quiet_hostOps1_111 : (hostOps1_111 (F := F)).Forall Quiet :=
  ⟨quiet_of rfl rfl (by decide), quiet_of rfl rfl (by decide), quiet_of rfl rfl (by decide)⟩
/-- Each of the 4 operation(s) of `hostOps1_112` writes only its own result, none of the three watched buffers. -/
theorem quiet_hostOps1_112 : (hostOps1_112 (F := F)).Forall Quiet :=
  ⟨quiet_of rfl rfl (by decide), quiet_of rfl rfl (by decide), quiet_of rfl rfl (by decide), quiet_of rfl rfl (by decide)⟩
/-- Each of the 3 operation(s) of `hostOps1_113` writes only its own result, none of the three watched buffers. -/
theorem quiet_hostOps1_113 : (hostOps1_113 (F := F)).Forall Quiet :=
  ⟨quiet_of rfl rfl (by decide), quiet_of rfl rfl (by decide), quiet_of rfl rfl (by decide)⟩
/-- Each of the 19 operation(s) of `hostOps1_114` writes only its own result, none of the three watched buffers. -/
theorem quiet_hostOps1_114 : (hostOps1_114 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_115` writes only its own result, none of the three watched buffers. -/
theorem quiet_hostOps1_115 : (hostOps1_115 (F := F)).Forall Quiet :=
  ⟨quiet_of rfl rfl (by decide), quiet_of rfl rfl (by decide), quiet_of rfl rfl (by decide)⟩
/-- Each of the 3 operation(s) of `hostOps1_116` writes only its own result, none of the three watched buffers. -/
theorem quiet_hostOps1_116 : (hostOps1_116 (F := F)).Forall Quiet :=
  ⟨quiet_of rfl rfl (by decide), quiet_of rfl rfl (by decide), quiet_of rfl rfl (by decide)⟩
/-- Each of the 16 operation(s) of `hostOps1_117` writes only its own result, none of the three watched buffers. -/
theorem quiet_hostOps1_117 : (hostOps1_117 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_118` writes only its own result, none of the three watched buffers. -/
theorem quiet_hostOps1_118 : (hostOps1_118 (F := F)).Forall Quiet :=
  ⟨quiet_of rfl rfl (by decide), quiet_of rfl rfl (by decide), quiet_of rfl rfl (by decide)⟩
/-- Each of the 3 operation(s) of `hostOps1_119` writes only its own result, none of the three watched buffers. -/
theorem quiet_hostOps1_119 : (hostOps1_119 (F := F)).Forall Quiet :=
  ⟨quiet_of rfl rfl (by decide), quiet_of rfl rfl (by decide), quiet_of rfl rfl (by decide)⟩
/-- Each of the 21 operation(s) of `hostOps1_120` writes only its own result, none of the three watched buffers. -/
theorem quiet_hostOps1_120 : (hostOps1_120 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_121` writes only its own result, none of the three watched buffers. -/
theorem quiet_hostOps1_121 : (hostOps1_121 (F := F)).Forall Quiet :=
  ⟨quiet_of rfl rfl (by decide), quiet_of rfl rfl (by decide), quiet_of rfl rfl (by decide)⟩
/-- Each of the 1 operation(s) of `hostOps1_122` writes only its own result, none of the three watched buffers. -/
theorem quiet_hostOps1_122 : (hostOps1_122 (F := F)).Forall Quiet :=
  quiet_of rfl rfl (by decide)
/-- Each of the 3 operation(s) of `hostOps1_123` writes only its own result, none of the three watched buffers. -/
theorem quiet_hostOps1_123 : (hostOps1_123 (F := F)).Forall Quiet :=
  ⟨quiet_of rfl rfl (by decide), quiet_of rfl rfl (by decide), quiet_of rfl rfl (by decide)⟩
/-- Each of the 4 operation(s) of `hostOps1_124` writes only its own result, none of the three watched buffers. -/
theorem quiet_hostOps1_124 : (hostOps1_124 (F := F)).Forall Quiet :=
  ⟨quiet_of rfl rfl (by decide), quiet_of rfl rfl (by decide), quiet_of rfl rfl (by decide), quiet_of rfl rfl (by decide)⟩
/-- Each of the 4 operation(s) of `hostOps1_125` writes only its own result, none of the three watched buffers. -/
theorem quiet_hostOps1_125 : (hostOps1_125 (F := F)).Forall Quiet :=
  ⟨quiet_of rfl rfl (by decide), quiet_of rfl rfl (by decide), quiet_of rfl rfl (by decide), quiet_of rfl rfl (by decide)⟩
/-- Each of the 32 operation(s) of `hostOps1_126` writes only its own result, none of the three watched buffers. -/
theorem quiet_hostOps1_126 : (hostOps1_126 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 3 operation(s) of `hostOps1_127` writes only its own result, none of the three watched buffers. -/
theorem quiet_hostOps1_127 : (hostOps1_127 (F := F)).Forall Quiet :=
  ⟨quiet_of rfl rfl (by decide), quiet_of rfl rfl (by decide), quiet_of rfl rfl (by decide)⟩
/-- Each of the 5 operation(s) of `hostOps1_128` writes only its own result, none of the three watched buffers. -/
theorem quiet_hostOps1_128 : (hostOps1_128 (F := F)).Forall Quiet :=
  ⟨quiet_of rfl rfl (by decide), quiet_of rfl rfl (by decide), quiet_of rfl rfl (by decide), quiet_of rfl rfl (by decide), quiet_of rfl rfl (by decide)⟩
/-- Each of the 3 operation(s) of `hostOps1_129` writes only its own result, none of the three watched buffers. -/
theorem quiet_hostOps1_129 : (hostOps1_129 (F := F)).Forall Quiet :=
  ⟨quiet_of rfl rfl (by decide), quiet_of rfl rfl (by decide), quiet_of rfl rfl (by decide)⟩
/-- Each of the 14 operation(s) of `hostOps1_130` writes only its own result, none of the three watched buffers. -/
theorem quiet_hostOps1_130 : (hostOps1_130 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 17 operation(s) of `hostOps1_131` writes only its own result, none of the three watched buffers. -/
theorem quiet_hostOps1_131 : (hostOps1_131 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_132` writes only its own result, none of the three watched buffers. -/
theorem quiet_hostOps1_132 : (hostOps1_132 (F := F)).Forall Quiet :=
  quiet_of rfl rfl (by decide)
/-- Each of the 3 operation(s) of `hostOps1_133` writes only its own result, none of the three watched buffers. -/
theorem quiet_hostOps1_133 : (hostOps1_133 (F := F)).Forall Quiet :=
  ⟨quiet_of rfl rfl (by decide), quiet_of rfl rfl (by decide), quiet_of rfl rfl (by decide)⟩
/-- Each of the 4 operation(s) of `hostOps1_134` writes only its own result, none of the three watched buffers. -/
theorem quiet_hostOps1_134 : (hostOps1_134 (F := F)).Forall Quiet :=
  ⟨quiet_of rfl rfl (by decide), quiet_of rfl rfl (by decide), quiet_of rfl rfl (by decide), quiet_of rfl rfl (by decide)⟩
/-- Each of the 17 operation(s) of `hostOps1_135` writes only its own result, none of the three watched buffers. -/
theorem quiet_hostOps1_135 : (hostOps1_135 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_136` writes only its own result, none of the three watched buffers. -/
theorem quiet_hostOps1_136 : (hostOps1_136 (F := F)).Forall Quiet :=
  quiet_of rfl rfl (by decide)
/-- Each of the 21 operation(s) of `hostOps1_137` writes only its own result, none of the three watched buffers. -/
theorem quiet_hostOps1_137 : (hostOps1_137 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_138` writes only its own result, none of the three watched buffers. -/
theorem quiet_hostOps1_138 : (hostOps1_138 (F := F)).Forall Quiet :=
  quiet_of rfl rfl (by decide)
/-- Each of the 3 operation(s) of `hostOps1_139` writes only its own result, none of the three watched buffers. -/
theorem quiet_hostOps1_139 : (hostOps1_139 (F := F)).Forall Quiet :=
  ⟨quiet_of rfl rfl (by decide), quiet_of rfl rfl (by decide), quiet_of rfl rfl (by decide)⟩
/-- Each of the 4 operation(s) of `hostOps1_140` writes only its own result, none of the three watched buffers. -/
theorem quiet_hostOps1_140 : (hostOps1_140 (F := F)).Forall Quiet :=
  ⟨quiet_of rfl rfl (by decide), quiet_of rfl rfl (by decide), quiet_of rfl rfl (by decide), quiet_of rfl rfl (by decide)⟩
/-- Each of the 21 operation(s) of `hostOps1_141` writes only its own result, none of the three watched buffers. -/
theorem quiet_hostOps1_141 : (hostOps1_141 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩
/-- Each of the 1 operation(s) of `hostOps1_142` writes only its own result, none of the three watched buffers. -/
theorem quiet_hostOps1_142 : (hostOps1_142 (F := F)).Forall Quiet :=
  quiet_of rfl rfl (by decide)
/-- Each of the 3 operation(s) of `hostOps1_143` writes only its own result, none of the three watched buffers. -/
theorem quiet_hostOps1_143 : (hostOps1_143 (F := F)).Forall Quiet :=
  ⟨quiet_of rfl rfl (by decide), quiet_of rfl rfl (by decide), quiet_of rfl rfl (by decide)⟩
/-- Each of the 10 operation(s) of `hostOps1_144` writes only its own result, none of the three watched buffers. -/
theorem quiet_hostOps1_144 : (hostOps1_144 (F := F)).Forall Quiet :=
  ⟨quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide), quiet_of rfl rfl (by decide)⟩

end Cert.KernelIdeal.Hand

end
-- ==== Proof.KFI_TailOps.lean ====
/- TABLE: the list of the host segments after the region, and the per-segment facts gathered over that list. -/
import proofs.«111982_j16939351015723_2_alg».proof.Proof.KFI_Q1
import proofs.«111982_j16939351015723_2_alg».proof.Proof.KFI_Q2
import proofs.«111982_j16939351015723_2_alg».proof.Proof.KFI_Q3

-- the longest segments are literal lists of up to 99 operations
set_option maxRecDepth 6412

noncomputable section

namespace Cert.KernelIdeal.Hand

open Cert.KernelIdeal.Gen
open Idealize.ShloMosaic Idealize.ShloMosaic.TcCoe
open Idealize.SL Idealize.SL.Sem

variable {F : FTy → Type} [FloatOps F]
/-- The host segments after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144]

/-- Every operation of every segment of the tail is quiet. -/
theorem tail_quiet_all : (tailOps (F := F)).Forall fun ops => ops.Forall Quiet :=
  ⟨quiet_hostOps1, quiet_hostOps1_1, quiet_hostOps1_2, quiet_hostOps1_3, quiet_hostOps1_4, quiet_hostOps1_5, quiet_hostOps1_6, quiet_hostOps1_7, quiet_hostOps1_8, quiet_hostOps1_9, quiet_hostOps1_10, quiet_hostOps1_11, quiet_hostOps1_12, quiet_hostOps1_13, quiet_hostOps1_14, quiet_hostOps1_15, quiet_hostOps1_16, quiet_hostOps1_17, quiet_hostOps1_18, quiet_hostOps1_19, quiet_hostOps1_20, quiet_hostOps1_21, quiet_hostOps1_22, quiet_hostOps1_23, quiet_hostOps1_24, quiet_hostOps1_25, quiet_hostOps1_26, quiet_hostOps1_27, quiet_hostOps1_28, quiet_hostOps1_29, quiet_hostOps1_30, quiet_hostOps1_31, quiet_hostOps1_32, quiet_hostOps1_33, quiet_hostOps1_34, quiet_hostOps1_35, quiet_hostOps1_36, quiet_hostOps1_37, quiet_hostOps1_38, quiet_hostOps1_39, quiet_hostOps1_40, quiet_hostOps1_41, quiet_hostOps1_42, quiet_hostOps1_43, quiet_hostOps1_44, quiet_hostOps1_45, quiet_hostOps1_46, quiet_hostOps1_47, quiet_hostOps1_48, quiet_hostOps1_49, quiet_hostOps1_50, quiet_hostOps1_51, quiet_hostOps1_52, quiet_hostOps1_53, quiet_hostOps1_54, quiet_hostOps1_55, quiet_hostOps1_56, quiet_hostOps1_57, quiet_hostOps1_58, quiet_hostOps1_59, quiet_hostOps1_60, quiet_hostOps1_61, quiet_hostOps1_62, quiet_hostOps1_63, quiet_hostOps1_64, quiet_hostOps1_65, quiet_hostOps1_66, quiet_hostOps1_67, quiet_hostOps1_68, quiet_hostOps1_69, quiet_hostOps1_70, quiet_hostOps1_71, quiet_hostOps1_72, quiet_hostOps1_73, quiet_hostOps1_74, quiet_hostOps1_75, quiet_hostOps1_76, quiet_hostOps1_77, quiet_hostOps1_78, quiet_hostOps1_79, quiet_hostOps1_80, quiet_hostOps1_81, quiet_hostOps1_82, quiet_hostOps1_83, quiet_hostOps1_84, quiet_hostOps1_85, quiet_hostOps1_86, quiet_hostOps1_87, quiet_hostOps1_88, quiet_hostOps1_89, quiet_hostOps1_90, quiet_hostOps1_91, quiet_hostOps1_92, quiet_hostOps1_93, quiet_hostOps1_94, quiet_hostOps1_95, quiet_hostOps1_96, quiet_hostOps1_97, quiet_hostOps1_98, quiet_hostOps1_99, quiet_hostOps1_100, quiet_hostOps1_101, quiet_hostOps1_102, quiet_hostOps1_103, quiet_hostOps1_104, quiet_hostOps1_105, quiet_hostOps1_106, quiet_hostOps1_107, quiet_hostOps1_108, quiet_hostOps1_109, quiet_hostOps1_110, quiet_hostOps1_111, quiet_hostOps1_112, quiet_hostOps1_113, quiet_hostOps1_114, quiet_hostOps1_115, quiet_hostOps1_116, quiet_hostOps1_117, quiet_hostOps1_118, quiet_hostOps1_119, quiet_hostOps1_120, quiet_hostOps1_121, quiet_hostOps1_122, quiet_hostOps1_123, quiet_hostOps1_124, quiet_hostOps1_125, quiet_hostOps1_126, quiet_hostOps1_127, quiet_hostOps1_128, quiet_hostOps1_129, quiet_hostOps1_130, quiet_hostOps1_131, quiet_hostOps1_132, quiet_hostOps1_133, quiet_hostOps1_134, quiet_hostOps1_135, quiet_hostOps1_136, quiet_hostOps1_137, quiet_hostOps1_138, quiet_hostOps1_139, quiet_hostOps1_140, quiet_hostOps1_141, quiet_hostOps1_142, quiet_hostOps1_143, quiet_hostOps1_144⟩

/-- Every operation of every segment of the tail touches TensorCore references only. -/
theorem tail_sub_all : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub, hostOps1_76_sub, hostOps1_77_sub, hostOps1_78_sub, hostOps1_79_sub, hostOps1_80_sub, hostOps1_81_sub, hostOps1_82_sub, hostOps1_83_sub, hostOps1_84_sub, hostOps1_85_sub, hostOps1_86_sub, hostOps1_87_sub, hostOps1_88_sub, hostOps1_89_sub, hostOps1_90_sub, hostOps1_91_sub, hostOps1_92_sub, hostOps1_93_sub, hostOps1_94_sub, hostOps1_95_sub, hostOps1_96_sub, hostOps1_97_sub, hostOps1_98_sub, hostOps1_99_sub, hostOps1_100_sub, hostOps1_101_sub, hostOps1_102_sub, hostOps1_103_sub, hostOps1_104_sub, hostOps1_105_sub, hostOps1_106_sub, hostOps1_107_sub, hostOps1_108_sub, hostOps1_109_sub, hostOps1_110_sub, hostOps1_111_sub, hostOps1_112_sub, hostOps1_113_sub, hostOps1_114_sub, hostOps1_115_sub, hostOps1_116_sub, hostOps1_117_sub, hostOps1_118_sub, hostOps1_119_sub, hostOps1_120_sub, hostOps1_121_sub, hostOps1_122_sub, hostOps1_123_sub, hostOps1_124_sub, hostOps1_125_sub, hostOps1_126_sub, hostOps1_127_sub, hostOps1_128_sub, hostOps1_129_sub, hostOps1_130_sub, hostOps1_131_sub, hostOps1_132_sub, hostOps1_133_sub, hostOps1_134_sub, hostOps1_135_sub, hostOps1_136_sub, hostOps1_137_sub, hostOps1_138_sub, hostOps1_139_sub, hostOps1_140_sub, hostOps1_141_sub, hostOps1_142_sub, hostOps1_143_sub, hostOps1_144_sub⟩

end Cert.KernelIdeal.Hand

end
-- ==== Proof.KFI_Tail.lean ====
import proofs.«111982_j16939351015723_2_alg».proof.Proof.KFI_TailOps
import Idealize.ShloMosaic.Lib.Pipeline.FrameSuffix

noncomputable section

namespace Cert.KernelIdeal.Hand

open Cert.KernelIdeal.Gen
open Idealize.ShloMosaic Idealize.ShloMosaic.TcCoe
open Idealize.SL Idealize.SL.Sem

variable {F : FTy → Type} [FloatOps F]

/-! ## The host segments after the region, operation by operation

From the per-segment tables (every operation quiet) to the three side conditions of the frame run around the region,
stated over membership in the list of segments, and to "no operation after the region writes the argument array". -/

/-- Every operation of every segment after the region is quiet. -/
theorem tail_quiet : ∀ ops ∈ (tailOps (F := F)), ∀ op ∈ ops, Quiet op := fun ops hops op hop =>
  List.forall_iff_forall_mem.mp (List.forall_iff_forall_mem.mp tail_quiet_all ops hops) op hop

/-- The operations after the region touch the pipeline's arrays and the bypassing buffers only: each operation's buffers
    are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    (List.forall_iff_forall_mem.mp (List.forall_iff_forall_mem.mp tail_sub_all ops hops) op hop)

/-- They allocate nothing. -/
theorem sfx_fresh : ∀ ops ∈ (tailOps : List (List (HloOp τ sig (Elt F)))), ∀ op ∈ ops, op.fresh = ∅ :=
  fun ops hops op hop => (tail_quiet ops hops op hop).1

/-- And they write no array of the pipeline: the input array is `main_v62`, the output array `main_v63`. -/
theorem sfx_keeps : ∀ ops ∈ (tailOps : List (List (HloOp τ sig (Elt F)))), ∀ op ∈ ops,
    ∀ w, Proc.devRef .tc (Pipeline.arrRef spec0 w) ∉ op.writes := by
  intro ops hops op hop w
  have q := (tail_quiet ops hops op hop).2
  fin_cases w
  · exact q main_v62 (List.mem_cons_of_mem _ List.mem_cons_self)
  · exact q main_v63 (List.mem_cons_of_mem _ (List.mem_cons_of_mem _ List.mem_cons_self))

/-- No operation after the region writes the argument array. -/
theorem tail_keeps_arg0 : ∀ op ∈ (tailOps (F := F)).flatten, Proc.devRef (τ := τ) .tc main_arg0 ∉ op.writes :=
  fun op hop => by
    obtain ⟨ops, hops, hop'⟩ := List.mem_flatten.mp hop
    exact (tail_quiet ops hops op hop').2 main_arg0 List.mem_cons_self

/-- The operations before the region allocate nothing, -/
theorem hostOps0_fresh : (hostOps0 : List (HloOp τ sig (Elt F))).Forall fun op => op.fresh = ∅ :=
  List.forall_iff_forall_mem.mpr fun op hop => (List.forall_iff_forall_mem.mp quietArg_hostOps0 op hop).1

/-- and none of them writes the argument array. -/
theorem hostOps0_keeps_arg0 : ∀ op ∈ (hostOps0 (F := F)), Proc.devRef (τ := τ) .tc main_arg0 ∉ op.writes :=
  fun op hop => (List.forall_iff_forall_mem.mp quietArg_hostOps0 op hop).2

end Cert.KernelIdeal.Hand

end
-- ==== Proof.KFrameIdeal.lean ====
import proofs.«111982_j16939351015723_2_alg».proof.Proof.KFI_Body
import proofs.«111982_j16939351015723_2_alg».proof.Proof.KFI_Tail
import proofs.«111982_j16939351015723_2_alg».proof.Proof.Gen.KernelIdeal.Launch
import proofs.«111982_j16939351015723_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

-- the program as a chain of its 147 items is compared item by item with the chain built from the two lists of segments
set_option maxRecDepth 16384 in
/-- @main around the region: the host operations before it, the region, the host segments after it — it reduces to the
    region CONTINUED BY the later segments. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => by
    obtain ⟨ops, hops, hop'⟩ := List.mem_flatten.mp hop
    obtain rfl := List.mem_singleton.mp hops
    exact hostOps0_keeps_arg0 op hop')

/-- No host operation after the region writes `main_arg0`, and it is no array of the pipeline: it ends as launched,
    whatever the proof data. -/
theorem W_main_arg0_of (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for ANY proof
    data whose array is `V`'s (`hA`) and whose body leaves the block in place (`hafter`): the window is uncut and
    never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post — read at the
    argument array, which no window stages: the post's second clause, then `W_main_arg0_of` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0_of m dats c))) h

/-! ## The pipeline's proof data -/

/-- The proof data of the one pipeline on core `c`: the arrays as the region finds them (`V`); after the body at
    point `t` the input's buffer at its block and the output's at `out0_1` of the input block; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents `V`, by the definition of the proof data. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- No host operation after the region writes `main_arg0`: it ends as launched. -/
theorem W_main_arg0 (c : Dev nD) :
    Pipeline.afterTail₀ cfgs (dats m) 0 (V0 m) tailOps c main_arg0 = m ((c : Thread nD τ).loc main_arg0) :=
  W_main_arg0_of m (dats m) c

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library's frame run around a region, at this program's configuration, proof data and region-entry contents
set_option backward.isDefEq.respectTransparency.types false in
/-- At the compiled mesh, for any values, from any memory with zero counters: every weakly fair execution of @main on the
    TensorCores terminates, and every final state has every array of the pipeline at what the library computes from the
    proof data and every other unscoped buffer as the host segments after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME: @main runs and the argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KFI_Final.lean ====
import proofs.«111982_j16939351015723_2_alg».proof.Proof.KFrameIdeal
import Idealize.ShloMosaic.Lib.ValueIdxCoords
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's output array, as one function of its input array

Grid point `t` stages block `(t, ·, ·)` of the input array `[4, 3, 300000]` and writes back block `(t, 0, ·)` of the
output array `[4, 1, 300000]`; the four output blocks tile the array. So after the region the output array at
`(b, 0, n)` is the body's result on block `b` of the input array, read at `(0, 0, n)`. -/

/-- The output array after the region, from the input array as the region finds it: at `j = (b, 0, n)`, the body's
    result on block `b` of the input array, read at `(0, 0, n)`. -/
def G1 (c : Dev nD) : S4x1x300000.Idx → Elt F .i32 := fun j =>
  out0_1 (fun y => V m c main_v62 (ix3 (j 0) (y 1) (y 2))) (ix3 0 0 (j 2))

/-- The printed index maps, decided over the four grid points: both windows move along the first axis only, together,
    and stay inside the array. -/
theorem idx_facts1 : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 3 :=
  (by decide +kernel : ∀ t : Fin grid0.N, _)

/-- Every block of the output array is SOME point's. -/
theorem idx_onto1 : ∀ q0 : Fin 4, ∃ t : Fin cfg0.N, win0_1.index t = ![q0.val, 0, 0] :=
  (by decide +kernel : ∀ q0 : Fin 4, ∃ t : Fin grid0.N, win0_1.index t = ![q0.val, 0, 0])

-- the equation holds for the body's result as any function of the block: only its value at the block enters
attribute [local irreducible] out0_1 in
/-- WHAT POINT `t` WRITES BACK is block `t` of `G1`. -/
theorem flushed1_eq (c : Dev nD) (t : Fin cfg0.N) :
    (dats m 0 c).flushed 1 t = ((cfg0.win 1).blk t).view.read (Elt F) (G1 m c) := by
  show (cfg0.win 1).cut (grid0.coords t) ((dats m 0 c).after 1 t) = _
  rw [after0_1]
  obtain ⟨e0, e1, e2, e3, e4, e5⟩ := idx_facts1 t
  funext y
  have hb : iblk m c 0 t = fun z => V m c main_v62 (ix3 ((((cfg0.win 1).blk t).view.emb y) 0) (z 1) (z 2)) := by
    funext z
    show V m c main_v62 (((cfg0.win 0).blk t).view.emb z) = _
    refine congrArg (V m c main_v62) ?_
    funext a; apply Fin.ext
    match a with
    | ⟨0, _⟩ =>
      show win0_0.index t (0 : Fin 3) * 1 + 1 * (z 0).val = win0_1.index t (0 : Fin 3) * 1 + 1 * (y 0).val
      have hz : (z 0).val < 1 := (z 0).isLt
      have hy : (y 0).val < 1 := (y 0).isLt
      omega
    | ⟨1, _⟩ => show win0_0.index t (1 : Fin 3) * 3 + 1 * (z 1).val = (z 1).val; omega
    | ⟨2, _⟩ => show win0_0.index t (2 : Fin 3) * 300000 + 1 * (z 2).val = (z 2).val; omega
  have hy : (cfg0.win 1).xinj (grid0.coords t) y = ix3 0 0 ((((cfg0.win 1).blk t).view.emb y) 2) := by
    funext a; apply Fin.ext
    match a with
    | ⟨0, _⟩ => show (y 0).val = 0; have hy : (y 0).val < 1 := (y 0).isLt; omega
    | ⟨1, _⟩ => show (y 1).val = 0; have hy : (y 1).val < 1 := (y 1).isLt; omega
    | ⟨2, _⟩ => show (y 2).val = win0_1.index t (2 : Fin 3) * 300000 + 1 * (y 2).val; omega
  rw [View.read_apply]
  show out0_1 (iblk m c 0 t) ((cfg0.win 1).xinj (grid0.coords t) y) = G1 m c (((cfg0.win 1).blk t).view.emb y)
  rw [hb, hy]
  rfl

/-- An index of the output array is in point `t`'s block iff each coordinate is in the block's range on its axis. -/
theorem mem_blk1 (t : Fin cfg0.N) (i : S4x1x300000.Idx) :
    i ∈ ((cfg0.win 1).blk t).view.set ↔ ∀ a : Fin 3, win0_1.index t a * S1x1x300000.size a ≤ (i a).val ∧ (i a).val < win0_1.index t a * S1x1x300000.size a + S1x1x300000.size a := by
  show i ∈ ((View.whole main_v63).slice (win0_1.rect t)).set ↔ _
  rw [View.set_slice_whole, Rect.mem_set_unit]
  exact Iff.rfl

/-- THE COVER: every index `(b, 0, n)` of the output array is in the block of the point whose block index is `b`. -/
theorem cover1 (i : S4x1x300000.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 300000 := (i 2).isLt
  obtain ⟨t, ht⟩ := idx_onto1 ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 300000 ≤ (i 2).val ∧ (i 2).val < win0_1.index t (2 : Fin 3) * 300000 + 300000; omega

/-- THE OUTPUT ARRAY after the region is `G1`: at `(b, 0, n)` the body's result on block `b` of the input array as the
    region finds it, read at `(0, 0, n)`. -/
theorem final1 (c : Dev nD) : (dats m 0 c).arrAt 1 cfg0.N = G1 m c :=
  (dats m 0 c).arrAt_eq_of_cover 1 (G1 m c) (fun t _ => flushed1_eq m c t) cover1

/-- The same, spelt out. -/
theorem final1' (c : Dev nD) : (dats m 0 c).arrAt 1 cfg0.N
    = fun j => out0_1 (fun y => V m c main_v62 (ix3 (j 0) (y 1) (y 2))) (ix3 0 0 (j 2)) :=
  final1 m c

/-- info: 'Cert.KernelIdeal.Hand.final1' depends on axioms: [propext, Classical.choice, Quot.sound] -/
#guard_msgs in #print axioms final1

end Cert.KernelIdeal.Hand

end
-- ==== Proof.RefOps.lean ====
/- The reference program's @main as the list of its host operations, in order, each printed line's operation as the
   printed text states it and each call replaced by the callee's printed operations over that call's buffers, cut into
   consecutive named stretches: the three leading constants; per batch i the point cloud with three entries overridden
   (ptsOps), the cell id of each point (linOps), everything after the cell ids (tlOps); the three closing concatenations. -/
import proofs.«111982_j16939351015723_2_alg».proof.Proof.Gen.ReferenceIdeal
import Idealize.ShloMosaic.Lib.StableHlo.Run

-- a list of some hundreds of operations, and a tuple of as many facts about it, nest past the default depth
set_option maxRecDepth 16384

noncomputable section

namespace Cert.ReferenceIdeal.Hand

open Cert.ReferenceIdeal.Gen Idealize.ShloMosaic Idealize.SL.Sem

variable {F : FTy → Type} [FloatOps F]

set_option maxHeartbeats 40000000 in
/-- 3 operations: from %cst through %c. -/
abbrev hdOps : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)) ]

set_option maxHeartbeats 40000000 in
/-- 23 operations: from %0 through %13. -/
abbrev ptsOps0 : List (HloOp τ sig (Elt F)) :=
  [ StableHlo.unary main_arg0 main_v0 ((extractStridedSlice S1x300000x5 ![0, 0, 0] · slices_S4x300000x5_S1x300000x5_0_0_0) : (⟨S4x300000x5, .f32⟩ : BufTy).Contents (Elt F) → (⟨S1x300000x5, .f32⟩ : BufTy).Contents (Elt F)),
    StableHlo.reshape main_v0 main_v1 rfl shapeCasts_S1x300000x5_S300000x5,
    StableHlo.nullary main_c_1 (constantI S_ 32 0#32),
    StableHlo.unary main_c_1 main_v2 (broadcastInDim S1 ![] bcast_S_S1 : (⟨S_, .i32⟩ : BufTy).Contents (Elt F) → (⟨S1, .i32⟩ : BufTy).Contents (Elt F)),
    StableHlo.nullary main_c_2 (constantI S_ 32 0#32),
    StableHlo.unary main_c_2 main_v3 (broadcastInDim S1 ![] bcast_S_S1 : (⟨S_, .i32⟩ : BufTy).Contents (Elt F) → (⟨S1, .i32⟩ : BufTy).Contents (Elt F)),
    StableHlo.binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_3 (constant S_ .f32 0x3F400000#32),
    StableHlo.ternary main_v1 main_v4 main_cst_3 main_v5 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_4 (constantI S_ 32 0#32),
    StableHlo.unary main_c_4 main_v6 (broadcastInDim S1 ![] bcast_S_S1 : (⟨S_, .i32⟩ : BufTy).Contents (Elt F) → (⟨S1, .i32⟩ : BufTy).Contents (Elt F)),
    StableHlo.nullary main_c_5 (constantI S_ 32 1#32),
    StableHlo.unary main_c_5 main_v7 (broadcastInDim S1 ![] bcast_S_S1 : (⟨S_, .i32⟩ : BufTy).Contents (Elt F) → (⟨S1, .i32⟩ : BufTy).Contents (Elt F)),
    StableHlo.binary main_v6 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_6 (constant S_ .f32 0x3E800000#32),
    StableHlo.ternary main_v5 main_v8 main_cst_6 main_v9 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_7 (constantI S_ 32 0#32),
    StableHlo.unary main_c_7 main_v10 (broadcastInDim S1 ![] bcast_S_S1 : (⟨S_, .i32⟩ : BufTy).Contents (Elt F) → (⟨S1, .i32⟩ : BufTy).Contents (Elt F)),
    StableHlo.nullary main_c_8 (constantI S_ 32 2#32),
    StableHlo.unary main_c_8 main_v11 (broadcastInDim S1 ![] bcast_S_S1 : (⟨S_, .i32⟩ : BufTy).Contents (Elt F) → (⟨S1, .i32⟩ : BufTy).Contents (Elt F)),
    StableHlo.binary main_v10 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_9 (constant S_ .f32 0x40000000#32),
    StableHlo.ternary main_v9 main_v12 main_cst_9 main_v13 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]

set_option maxHeartbeats 40000000 in
/-- 36 operations: from %14 through %42. -/
abbrev linOps0 : List (HloOp τ sig (Elt F)) :=
  [ StableHlo.unary main_v13 main_v14 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v15 (broadcastInDim S1x3 ![1] bcast_S3_S1x3_1 : (⟨S3, .f32⟩ : BufTy).Contents (Elt F) → (⟨S1x3, .f32⟩ : BufTy).Contents (Elt F)),
    StableHlo.unary main_v15 main_v16 (broadcastInDim S300000x3 ![0, 1] bcast_S1x3_S300000x3_0_1 : (⟨S1x3, .f32⟩ : BufTy).Contents (Elt F) → (⟨S300000x3, .f32⟩ : BufTy).Contents (Elt F)),
    StableHlo.binary main_v14 main_v16 main_v17 (subf : (⟨S300000x3, .f32⟩ : BufTy).Contents (Elt F) → (⟨S300000x3, .f32⟩ : BufTy).Contents (Elt F) → (⟨S300000x3, .f32⟩ : BufTy).Contents (Elt F)),
    StableHlo.unary main_cst_0 main_v18 (broadcastInDim S1x3 ![1] bcast_S3_S1x3_1 : (⟨S3, .f32⟩ : BufTy).Contents (Elt F) → (⟨S1x3, .f32⟩ : BufTy).Contents (Elt F)),
    StableHlo.unary main_v18 main_v19 (broadcastInDim S300000x3 ![0, 1] bcast_S1x3_S300000x3_0_1 : (⟨S1x3, .f32⟩ : BufTy).Contents (Elt F) → (⟨S300000x3, .f32⟩ : BufTy).Contents (Elt F)),
    StableHlo.binary main_v17 main_v19 main_v20 (Host.divf : (⟨S300000x3, .f32⟩ : BufTy).Contents (Elt F) → (⟨S300000x3, .f32⟩ : BufTy).Contents (Elt F) → (⟨S300000x3, .f32⟩ : BufTy).Contents (Elt F)),
    StableHlo.unary main_v20 main_v21 (Host.floor : (⟨S300000x3, .f32⟩ : BufTy).Contents (Elt F) → (⟨S300000x3, .f32⟩ : BufTy).Contents (Elt F)),
    StableHlo.unary main_v21 main_v22 (fptosi 32 : (⟨S300000x3, .f32⟩ : BufTy).Contents (Elt F) → (⟨S300000x3, .i32⟩ : BufTy).Contents (Elt F)),
    StableHlo.nullary main_c_10 (constantI S_ 32 0#32),
    StableHlo.unary main_c_10 main_v23 (broadcastInDim S300000x3 ![] bcast_S_S300000x3 : (⟨S_, .i32⟩ : BufTy).Contents (Elt F) → (⟨S300000x3, .i32⟩ : BufTy).Contents (Elt F)),
    StableHlo.binary main_v22 main_v23 main_v24 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v25 (broadcastInDim S1x3 ![1] bcast_S3_S1x3_1 : (⟨S3, .i32⟩ : BufTy).Contents (Elt F) → (⟨S1x3, .i32⟩ : BufTy).Contents (Elt F)),
    StableHlo.unary main_v25 main_v26 (broadcastInDim S300000x3 ![0, 1] bcast_S1x3_S300000x3_0_1 : (⟨S1x3, .i32⟩ : BufTy).Contents (Elt F) → (⟨S300000x3, .i32⟩ : BufTy).Contents (Elt F)),
    StableHlo.binary main_v22 main_v26 main_v27 (cmpi .slt : (⟨S300000x3, .i32⟩ : BufTy).Contents (Elt F) → (⟨S300000x3, .i32⟩ : BufTy).Contents (Elt F) → (⟨S300000x3, .i1⟩ : BufTy).Contents (Elt F)),
    StableHlo.binary main_v24 main_v27 main_v28 (andi : (⟨S300000x3, .i1⟩ : BufTy).Contents (Elt F) → (⟨S300000x3, .i1⟩ : BufTy).Contents (Elt F) → (⟨S300000x3, .i1⟩ : BufTy).Contents (Elt F)),
    StableHlo.nullary main_c_11 (constantI S_ 1 1#1),
    StableHlo.binary main_v28 main_c_11 main_v29 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v22 main_v30 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v30 main_v31 rfl shapeCasts_S300000x1_S300000,
    StableHlo.nullary main_c_12 (constantI S_ 32 512#32),
    StableHlo.unary main_c_12 main_v32 (broadcastInDim S300000 ![] bcast_S_S300000 : (⟨S_, .i32⟩ : BufTy).Contents (Elt F) → (⟨S300000, .i32⟩ : BufTy).Contents (Elt F)),
    StableHlo.binary main_v31 main_v32 main_v33 (muli : (⟨S300000, .i32⟩ : BufTy).Contents (Elt F) → (⟨S300000, .i32⟩ : BufTy).Contents (Elt F) → (⟨S300000, .i32⟩ : BufTy).Contents (Elt F)),
    StableHlo.unary main_v22 main_v34 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v34 main_v35 rfl shapeCasts_S300000x1_S300000,
    StableHlo.binary main_v33 main_v35 main_v36 (addi : (⟨S300000, .i32⟩ : BufTy).Contents (Elt F) → (⟨S300000, .i32⟩ : BufTy).Contents (Elt F) → (⟨S300000, .i32⟩ : BufTy).Contents (Elt F)),
    StableHlo.nullary main_c_13 (constantI S_ 32 512#32),
    StableHlo.unary main_c_13 main_v37 (broadcastInDim S300000 ![] bcast_S_S300000 : (⟨S_, .i32⟩ : BufTy).Contents (Elt F) → (⟨S300000, .i32⟩ : BufTy).Contents (Elt F)),
    StableHlo.binary main_v36 main_v37 main_v38 (muli : (⟨S300000, .i32⟩ : BufTy).Contents (Elt F) → (⟨S300000, .i32⟩ : BufTy).Contents (Elt F) → (⟨S300000, .i32⟩ : BufTy).Contents (Elt F)),
    StableHlo.unary main_v22 main_v39 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v39 main_v40 rfl shapeCasts_S300000x1_S300000,
    StableHlo.binary main_v38 main_v40 main_v41 (addi : (⟨S300000, .i32⟩ : BufTy).Contents (Elt F) → (⟨S300000, .i32⟩ : BufTy).Contents (Elt F) → (⟨S300000, .i32⟩ : BufTy).Contents (Elt F)),
    StableHlo.nullary main_c_14 (constantI S_ 32 262144#32),
    StableHlo.TRef.unary (.of main_c_14 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S300000, .i32⟩) (broadcastInDim S300000 ![] bcast_S_S300000),
    StableHlo.TRef.ternary (.of main_v29 : StableHlo.TRef sig ⟨S300000, .i1⟩) (.of main_v41 : StableHlo.TRef sig ⟨S300000, .i32⟩) (.of main_call0_v1 : StableHlo.TRef sig ⟨S300000, .i32⟩) (.of main_v42 : StableHlo.TRef sig ⟨S300000, .i32⟩) select ]

set_option maxHeartbeats 40000000 in
/-- 287 operations: from %43 through %175. -/
abbrev tlOps0 : List (HloOp τ sig (Elt F)) :=
  [ StableHlo.nullary main_v43 (iotaInDim S300000 32 0),
    StableHlo.nullary main_c_15 (constantI S_ 32 300000#32),
    StableHlo.unary main_c_15 main_v44 (broadcastInDim S262145 ![] bcast_S_S262145 : (⟨S_, .i32⟩ : BufTy).Contents (Elt F) → (⟨S262145, .i32⟩ : BufTy).Contents (Elt F)),
    StableHlo.nullary main_c_16 (constantI S_ 32 0#32),
    StableHlo.unary main_c_16 main_v45 (broadcastInDim S300000 ![] bcast_S_S300000 : (⟨S_, .i32⟩ : BufTy).Contents (Elt F) → (⟨S300000, .i32⟩ : BufTy).Contents (Elt F)),
    StableHlo.binary main_v42 main_v45 main_v46 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 262145#32),
    StableHlo.unary main_c_17 main_v47 (broadcastInDim S300000 ![] bcast_S_S300000 : (⟨S_, .i32⟩ : BufTy).Contents (Elt F) → (⟨S300000, .i32⟩ : BufTy).Contents (Elt F)),
    StableHlo.binary main_v42 main_v47 main_v48 (addi : (⟨S300000, .i32⟩ : BufTy).Contents (Elt F) → (⟨S300000, .i32⟩ : BufTy).Contents (Elt F) → (⟨S300000, .i32⟩ : BufTy).Contents (Elt F)),
    StableHlo.ternary main_v46 main_v48 main_v42 main_v49 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v49 main_v50 (broadcastInDim S300000x1 ![0] bcast_S300000_S300000x1_0 : (⟨S300000, .i32⟩ : BufTy).Contents (Elt F) → (⟨S300000x1, .i32⟩ : BufTy).Contents (Elt F)),
    StableHlo.ternary main_v44 main_v50 main_v43 main_v51 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_18 (constantI S_ 32 0#32),
    StableHlo.unary main_c_18 main_v52 (broadcastInDim S300000 ![] bcast_S_S300000 : (⟨S_, .i32⟩ : BufTy).Contents (Elt F) → (⟨S300000, .i32⟩ : BufTy).Contents (Elt F)),
    StableHlo.binary main_v42 main_v52 main_v53 (cmpi .slt : (⟨S300000, .i32⟩ : BufTy).Contents (Elt F) → (⟨S300000, .i32⟩ : BufTy).Contents (Elt F) → (⟨S300000, .i1⟩ : BufTy).Contents (Elt F)),
    StableHlo.nullary main_c_19 (constantI S_ 32 262145#32),
    StableHlo.unary main_c_19 main_v54 (broadcastInDim S300000 ![] bcast_S_S300000 : (⟨S_, .i32⟩ : BufTy).Contents (Elt F) → (⟨S300000, .i32⟩ : BufTy).Contents (Elt F)),
    StableHlo.binary main_v42 main_v54 main_v55 (addi : (⟨S300000, .i32⟩ : BufTy).Contents (Elt F) → (⟨S300000, .i32⟩ : BufTy).Contents (Elt F) → (⟨S300000, .i32⟩ : BufTy).Contents (Elt F)),
    StableHlo.ternary main_v53 main_v55 main_v42 main_v56 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v56 main_v57 (broadcastInDim S300000x1 ![0] bcast_S300000_S300000x1_0 : (⟨S300000, .i32⟩ : BufTy).Contents (Elt F) → (⟨S300000x1, .i32⟩ : BufTy).Contents (Elt F)),
    StableHlo.binary main_v51 main_v57 main_v58 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v58 main_v43 main_v59 (cmpi .eq : (⟨S300000, .i32⟩ : BufTy).Contents (Elt F) → (⟨S300000, .i32⟩ : BufTy).Contents (Elt F) → (⟨S300000, .i1⟩ : BufTy).Contents (Elt F)),
    StableHlo.binary main_v29 main_v59 main_v60 (andi : (⟨S300000, .i1⟩ : BufTy).Contents (Elt F) → (⟨S300000, .i1⟩ : BufTy).Contents (Elt F) → (⟨S300000, .i1⟩ : BufTy).Contents (Elt F)),
    StableHlo.unary main_v60 main_v61 ((extui 32 · natLt_1_32) : (⟨S300000, .i1⟩ : BufTy).Contents (Elt F) → (⟨S300000, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v61 : StableHlo.TRef sig ⟨S300000, .i32⟩) (.of main_call1_call0_v0 : StableHlo.TRef sig ⟨S_, .i32⟩) (.of main_v62 : StableHlo.TRef sig ⟨S300000, .i32⟩) (fun x v => Host.reduceWindow IntOp.addi ![300000] ![1] ![299999] ![0] x v reduceWindows_S300000_S300000_w300000s1p299999_0 h_S_),
    StableHlo.nullary main_c_20 (constantI S_ 32 1#32),
    StableHlo.unary main_c_20 main_v63 (broadcastInDim S300000 ![] bcast_S_S300000 : (⟨S_, .i32⟩ : BufTy).Contents (Elt F) → (⟨S300000, .i32⟩ : BufTy).Contents (Elt F)),
    StableHlo.binary main_v62 main_v63 main_v64 (subi : (⟨S300000, .i32⟩ : BufTy).Contents (Elt F) → (⟨S300000, .i32⟩ : BufTy).Contents (Elt F) → (⟨S300000, .i32⟩ : BufTy).Contents (Elt F)),
    StableHlo.nullary main_c_21 (constantI S_ 32 30000#32),
    StableHlo.unary main_c_21 main_v65 (broadcastInDim S262145 ![] bcast_S_S262145 : (⟨S_, .i32⟩ : BufTy).Contents (Elt F) → (⟨S262145, .i32⟩ : BufTy).Contents (Elt F)),
    StableHlo.nullary main_c_22 (constantI S_ 32 262144#32),
    StableHlo.TRef.unary (.of main_c_22 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S300000, .i32⟩) (broadcastInDim S300000 ![] bcast_S_S300000),
    StableHlo.TRef.ternary (.of main_v60 : StableHlo.TRef sig ⟨S300000, .i1⟩) (.of main_v42 : StableHlo.TRef sig ⟨S300000, .i32⟩) (.of main_call2_v1 : StableHlo.TRef sig ⟨S300000, .i32⟩) (.of main_v66 : StableHlo.TRef sig ⟨S300000, .i32⟩) select,
    StableHlo.nullary main_c_23 (constantI S_ 32 30000#32),
    StableHlo.unary main_c_23 main_v67 (broadcastInDim S300000 ![] bcast_S_S300000 : (⟨S_, .i32⟩ : BufTy).Contents (Elt F) → (⟨S300000, .i32⟩ : BufTy).Contents (Elt F)),
    StableHlo.binary main_v64 main_v67 main_v68 (minsi : (⟨S300000, .i32⟩ : BufTy).Contents (Elt F) → (⟨S300000, .i32⟩ : BufTy).Contents (Elt F) → (⟨S300000, .i32⟩ : BufTy).Contents (Elt F)),
    StableHlo.nullary main_c_24 (constantI S_ 32 30000#32),
    StableHlo.TRef.unary (.of main_c_24 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S300000, .i32⟩) (broadcastInDim S300000 ![] bcast_S_S300000),
    StableHlo.TRef.ternary (.of main_v60 : StableHlo.TRef sig ⟨S300000, .i1⟩) (.of main_v68 : StableHlo.TRef sig ⟨S300000, .i32⟩) (.of main_call3_v1 : StableHlo.TRef sig ⟨S300000, .i32⟩) (.of main_v69 : StableHlo.TRef sig ⟨S300000, .i32⟩) select,
    StableHlo.nullary main_c_25 (constantI S_ 32 0#32),
    StableHlo.unary main_c_25 main_v70 (broadcastInDim S300000 ![] bcast_S_S300000 : (⟨S_, .i32⟩ : BufTy).Contents (Elt F) → (⟨S300000, .i32⟩ : BufTy).Contents (Elt F)),
    StableHlo.binary main_v66 main_v70 main_v71 (cmpi .slt : (⟨S300000, .i32⟩ : BufTy).Contents (Elt F) → (⟨S300000, .i32⟩ : BufTy).Contents (Elt F) → (⟨S300000, .i1⟩ : BufTy).Contents (Elt F)),
    StableHlo.nullary main_c_26 (constantI S_ 32 262145#32),
    StableHlo.unary main_c_26 main_v72 (broadcastInDim S300000 ![] bcast_S_S300000 : (⟨S_, .i32⟩ : BufTy).Contents (Elt F) → (⟨S300000, .i32⟩ : BufTy).Contents (Elt F)),
    StableHlo.binary main_v66 main_v72 main_v73 (addi : (⟨S300000, .i32⟩ : BufTy).Contents (Elt F) → (⟨S300000, .i32⟩ : BufTy).Contents (Elt F) → (⟨S300000, .i32⟩ : BufTy).Contents (Elt F)),
    StableHlo.ternary main_v71 main_v73 main_v66 main_v74 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v74 main_v75 (broadcastInDim S300000x1 ![0] bcast_S300000_S300000x1_0 : (⟨S300000, .i32⟩ : BufTy).Contents (Elt F) → (⟨S300000x1, .i32⟩ : BufTy).Contents (Elt F)),
    StableHlo.ternary main_v65 main_v75 main_v69 main_v76 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_27 (constantI S_ 32 0#32),
    StableHlo.unary main_c_27 main_v77 (broadcastInDim S300000 ![] bcast_S_S300000 : (⟨S_, .i32⟩ : BufTy).Contents (Elt F) → (⟨S300000, .i32⟩ : BufTy).Contents (Elt F)),
    StableHlo.binary main_v42 main_v77 main_v78 (cmpi .slt : (⟨S300000, .i32⟩ : BufTy).Contents (Elt F) → (⟨S300000, .i32⟩ : BufTy).Contents (Elt F) → (⟨S300000, .i1⟩ : BufTy).Contents (Elt F)),
    StableHlo.nullary main_c_28 (constantI S_ 32 262145#32),
    StableHlo.unary main_c_28 main_v79 (broadcastInDim S300000 ![] bcast_S_S300000 : (⟨S_, .i32⟩ : BufTy).Contents (Elt F) → (⟨S300000, .i32⟩ : BufTy).Contents (Elt F)),
    StableHlo.binary main_v42 main_v79 main_v80 (addi : (⟨S300000, .i32⟩ : BufTy).Contents (Elt F) → (⟨S300000, .i32⟩ : BufTy).Contents (Elt F) → (⟨S300000, .i32⟩ : BufTy).Contents (Elt F)),
    StableHlo.ternary main_v78 main_v80 main_v42 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v81 main_v82 (broadcastInDim S300000x1 ![0] bcast_S300000_S300000x1_0 : (⟨S300000, .i32⟩ : BufTy).Contents (Elt F) → (⟨S300000x1, .i32⟩ : BufTy).Contents (Elt F)),
    StableHlo.binary main_v76 main_v82 main_v83 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_29 (constantI S_ 32 30000#32),
    StableHlo.TRef.unary (.of main_c_29 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S300000, .i32⟩) (broadcastInDim S300000 ![] bcast_S_S300000),
    StableHlo.TRef.ternary (.of main_v29 : StableHlo.TRef sig ⟨S300000, .i1⟩) (.of main_v83 : StableHlo.TRef sig ⟨S300000, .i32⟩) (.of main_call4_v1 : StableHlo.TRef sig ⟨S300000, .i32⟩) (.of main_v84 : StableHlo.TRef sig ⟨S300000, .i32⟩) select,
    StableHlo.TRef.nullary (.of main_call5_v0 : StableHlo.TRef sig ⟨S300000, .i32⟩) (iotaInDim S300000 32 0),
    StableHlo.TRef.binary (.of main_v42 : StableHlo.TRef sig ⟨S300000, .i32⟩) (.of main_call5_v0 : StableHlo.TRef sig ⟨S300000, .i32⟩) (.of main_call5_v1_0 : StableHlo.TRef sig ⟨S300000, .i32⟩) (fun x y => (Host.sort2 S300000 0 comparator_i32_i32_d0 x y).1),
    StableHlo.TRef.binary (.of main_v42 : StableHlo.TRef sig ⟨S300000, .i32⟩) (.of main_call5_v0 : StableHlo.TRef sig ⟨S300000, .i32⟩) (.of main_v85 : StableHlo.TRef sig ⟨S300000, .i32⟩) (fun x y => (Host.sort2 S300000 0 comparator_i32_i32_d0 x y).2),
    StableHlo.nullary main_c_30 (constantI S_ 32 0#32),
    StableHlo.unary main_c_30 main_v86 (broadcastInDim S300000 ![] bcast_S_S300000 : (⟨S_, .i32⟩ : BufTy).Contents (Elt F) → (⟨S300000, .i32⟩ : BufTy).Contents (Elt F)),
    StableHlo.binary main_v85 main_v86 main_v87 (cmpi .slt : (⟨S300000, .i32⟩ : BufTy).Contents (Elt F) → (⟨S300000, .i32⟩ : BufTy).Contents (Elt F) → (⟨S300000, .i1⟩ : BufTy).Contents (Elt F)),
    StableHlo.nullary main_c_31 (constantI S_ 32 300000#32),
    StableHlo.unary main_c_31 main_v88 (broadcastInDim S300000 ![] bcast_S_S300000 : (⟨S_, .i32⟩ : BufTy).Contents (Elt F) → (⟨S300000, .i32⟩ : BufTy).Contents (Elt F)),
    StableHlo.binary main_v85 main_v88 main_v89 (addi : (⟨S300000, .i32⟩ : BufTy).Contents (Elt F) → (⟨S300000, .i32⟩ : BufTy).Contents (Elt F) → (⟨S300000, .i32⟩ : BufTy).Contents (Elt F)),
    StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v90 main_v91 (broadcastInDim S300000x1 ![0] bcast_S300000_S300000x1_0 : (⟨S300000, .i32⟩ : BufTy).Contents (Elt F) → (⟨S300000x1, .i32⟩ : BufTy).Contents (Elt F)),
    StableHlo.binary main_v42 main_v91 main_v92 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_32 (constantI S_ 1 1#1),
    StableHlo.unary main_c_32 main_v93 (broadcastInDim S1 ![] bcast_S_S1 : (⟨S_, .i1⟩ : BufTy).Contents (Elt F) → (⟨S1, .i1⟩ : BufTy).Contents (Elt F)),
    StableHlo.unary main_v92 main_v94 ((extractStridedSlice S299999 ![1] · slices_S300000_S299999_1) : (⟨S300000, .i32⟩ : BufTy).Contents (Elt F) → (⟨S299999, .i32⟩ : BufTy).Contents (Elt F)),
    StableHlo.unary main_v92 main_v95 ((extractStridedSlice S299999 ![0] · slices_S300000_S299999_0) : (⟨S300000, .i32⟩ : BufTy).Contents (Elt F) → (⟨S299999, .i32⟩ : BufTy).Contents (Elt F)),
    StableHlo.binary main_v94 main_v95 main_v96 (cmpi .ne : (⟨S299999, .i32⟩ : BufTy).Contents (Elt F) → (⟨S299999, .i32⟩ : BufTy).Contents (Elt F) → (⟨S299999, .i1⟩ : BufTy).Contents (Elt F)),
    StableHlo.binary main_v93 main_v96 main_v97 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_33 (constantI S_ 32 0#32),
    StableHlo.TRef.unary (.of main_c_33 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S300000, .i32⟩) (broadcastInDim S300000 ![] bcast_S_S300000),
    StableHlo.TRef.ternary (.of main_v97 : StableHlo.TRef sig ⟨S300000, .i1⟩) (.of main_v43 : StableHlo.TRef sig ⟨S300000, .i32⟩) (.of main_call6_v1 : StableHlo.TRef sig ⟨S300000, .i32⟩) (.of main_v98 : StableHlo.TRef sig ⟨S300000, .i32⟩) select,
    StableHlo.TRef.nullary (.of main_call7_c : StableHlo.TRef sig ⟨S_, .i32⟩) (constantI S_ 32 2147483648#32),
    StableHlo.TRef.unary (.of main_call7_c : StableHlo.TRef sig ⟨S_, .i32⟩) (.of main_call7_v0 : StableHlo.TRef sig ⟨S_, .i32⟩) (broadcastInDim S_ ![] bcast_S_S_),
    StableHlo.TRef.binary (.of main_v98 : StableHlo.TRef sig ⟨S300000, .i32⟩) (.of main_call7_v0 : StableHlo.TRef sig ⟨S_, .i32⟩) (.of main_v99 : StableHlo.TRef sig ⟨S300000, .i32⟩) (fun x v => Host.reduceWindow IntOp.maxsi ![300000] ![1] ![299999] ![0] x v reduceWindows_S300000_S300000_w300000s1p299999_0 h_S_),
    StableHlo.nullary main_c_34 (constantI S_ 32 0#32),
    StableHlo.unary main_c_34 main_v100 (broadcastInDim S300000 ![] bcast_S_S300000 : (⟨S_, .i32⟩ : BufTy).Contents (Elt F) → (⟨S300000, .i32⟩ : BufTy).Contents (Elt F)),
    StableHlo.binary main_v43 main_v99 main_v101 (subi : (⟨S300000, .i32⟩ : BufTy).Contents (Elt F) → (⟨S300000, .i32⟩ : BufTy).Contents (Elt F) → (⟨S300000, .i32⟩ : BufTy).Contents (Elt F)),
    StableHlo.nullary main_c_35 (constantI S_ 32 0#32),
    StableHlo.unary main_c_35 main_v102 (broadcastInDim S300000 ![] bcast_S_S300000 : (⟨S_, .i32⟩ : BufTy).Contents (Elt F) → (⟨S300000, .i32⟩ : BufTy).Contents (Elt F)),
    StableHlo.binary main_v85 main_v102 main_v103 (cmpi .slt : (⟨S300000, .i32⟩ : BufTy).Contents (Elt F) → (⟨S300000, .i32⟩ : BufTy).Contents (Elt F) → (⟨S300000, .i1⟩ : BufTy).Contents (Elt F)),
    StableHlo.nullary main_c_36 (constantI S_ 32 300000#32),
    StableHlo.unary main_c_36 main_v104 (broadcastInDim S300000 ![] bcast_S_S300000 : (⟨S_, .i32⟩ : BufTy).Contents (Elt F) → (⟨S300000, .i32⟩ : BufTy).Contents (Elt F)),
    StableHlo.binary main_v85 main_v104 main_v105 (addi : (⟨S300000, .i32⟩ : BufTy).Contents (Elt F) → (⟨S300000, .i32⟩ : BufTy).Contents (Elt F) → (⟨S300000, .i32⟩ : BufTy).Contents (Elt F)),
    StableHlo.ternary main_v103 main_v105 main_v85 main_v106 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v106 main_v107 (broadcastInDim S300000x1 ![0] bcast_S300000_S300000x1_0 : (⟨S300000, .i32⟩ : BufTy).Contents (Elt F) → (⟨S300000x1, .i32⟩ : BufTy).Contents (Elt F)),
    StableHlo.ternary main_v100 main_v107 main_v101 main_v108 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_37 (constantI S_ 32 30000#32),
    StableHlo.unary main_c_37 main_v109 (broadcastInDim S300000 ![] bcast_S_S300000 : (⟨S_, .i32⟩ : BufTy).Contents (Elt F) → (⟨S300000, .i32⟩ : BufTy).Contents (Elt F)),
    StableHlo.binary main_v84 main_v109 main_v110 (cmpi .slt : (⟨S300000, .i32⟩ : BufTy).Contents (Elt F) → (⟨S300000, .i32⟩ : BufTy).Contents (Elt F) → (⟨S300000, .i1⟩ : BufTy).Contents (Elt F)),
    StableHlo.binary main_v29 main_v110 main_v111 (andi : (⟨S300000, .i1⟩ : BufTy).Contents (Elt F) → (⟨S300000, .i1⟩ : BufTy).Contents (Elt F) → (⟨S300000, .i1⟩ : BufTy).Contents (Elt F)),
    StableHlo.nullary main_c_38 (constantI S_ 32 20#32),
    StableHlo.unary main_c_38 main_v112 (broadcastInDim S300000 ![] bcast_S_S300000 : (⟨S_, .i32⟩ : BufTy).Contents (Elt F) → (⟨S300000, .i32⟩ : BufTy).Contents (Elt F)),
    StableHlo.binary main_v108 main_v112 main_v113 (cmpi .slt : (⟨S300000, .i32⟩ : BufTy).Contents (Elt F) → (⟨S300000, .i32⟩ : BufTy).Contents (Elt F) → (⟨S300000, .i1⟩ : BufTy).Contents (Elt F)),
    StableHlo.binary main_v111 main_v113 main_v114 (andi : (⟨S300000, .i1⟩ : BufTy).Contents (Elt F) → (⟨S300000, .i1⟩ : BufTy).Contents (Elt F) → (⟨S300000, .i1⟩ : BufTy).Contents (Elt F)),
    StableHlo.nullary main_c_39 (constantI S_ 32 30000#32),
    StableHlo.TRef.unary (.of main_c_39 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S300000, .i32⟩) (broadcastInDim S300000 ![] bcast_S_S300000),
    StableHlo.TRef.ternary (.of main_v114 : StableHlo.TRef sig ⟨S300000, .i1⟩) (.of main_v84 : StableHlo.TRef sig ⟨S300000, .i32⟩) (.of main_call8_v1 : StableHlo.TRef sig ⟨S300000, .i32⟩) (.of main_v115 : StableHlo.TRef sig ⟨S300000, .i32⟩) select,
    StableHlo.nullary main_c_40 (constantI S_ 32 0#32),
    StableHlo.TRef.unary (.of main_c_40 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S300000, .i32⟩) (broadcastInDim S300000 ![] bcast_S_S300000),
    StableHlo.TRef.ternary (.of main_v114 : StableHlo.TRef sig ⟨S300000, .i1⟩) (.of main_v108 : StableHlo.TRef sig ⟨S300000, .i32⟩) (.of main_call9_v1 : StableHlo.TRef sig ⟨S300000, .i32⟩) (.of main_v116 : StableHlo.TRef sig ⟨S300000, .i32⟩) select,
    StableHlo.nullary main_cst_41 (constant S_ .f32 0x00000000#32),
    StableHlo.unary main_cst_41 main_v117 (broadcastInDim S30001x20x5 ![] bcast_S_S30001x20x5 : (⟨S_, .f32⟩ : BufTy).Contents (Elt F) → (⟨S30001x20x5, .f32⟩ : BufTy).Contents (Elt F)),
    StableHlo.unary main_v114 main_v118 (broadcastInDim S300000x1 ![0] bcast_S300000_S300000x1_0 : (⟨S300000, .i1⟩ : BufTy).Contents (Elt F) → (⟨S300000x1, .i1⟩ : BufTy).Contents (Elt F)),
    StableHlo.nullary main_cst_42 (constant S_ .f32 0x00000000#32),
    StableHlo.TRef.unary (.of main_cst_42 : StableHlo.TRef sig ⟨S_, .f32⟩) (.of main_call10_v0 : StableHlo.TRef sig ⟨S_, .f32⟩) id,
    StableHlo.TRef.unary (.of main_v118 : StableHlo.TRef sig ⟨S300000x1, .i1⟩) (.of main_call10_v1 : StableHlo.TRef sig ⟨S300000x5, .i1⟩) (broadcastInDim S300000x5 ![0, 1] bcast_S300000x1_S300000x5_0_1),
    StableHlo.TRef.unary (.of main_call10_v0 : StableHlo.TRef sig ⟨S_, .f32⟩) (.of main_call10_v2 : StableHlo.TRef sig ⟨S300000x5, .f32⟩) (broadcastInDim S300000x5 ![] bcast_S_S300000x5),
    StableHlo.TRef.ternary (.of main_call10_v1 : StableHlo.TRef sig ⟨S300000x5, .i1⟩) (.of main_v13 : StableHlo.TRef sig ⟨S300000x5, .f32⟩) (.of main_call10_v2 : StableHlo.TRef sig ⟨S300000x5, .f32⟩) (.of main_v119 : StableHlo.TRef sig ⟨S300000x5, .f32⟩) select,
    StableHlo.nullary main_c_43 (constantI S_ 32 0#32),
    StableHlo.unary main_c_43 main_v120 (broadcastInDim S300000 ![] bcast_S_S300000 : (⟨S_, .i32⟩ : BufTy).Contents (Elt F) → (⟨S300000, .i32⟩ : BufTy).Contents (Elt F)),
    StableHlo.binary main_v115 main_v120 main_v121 (cmpi .slt : (⟨S300000, .i32⟩ : BufTy).Contents (Elt F) → (⟨S300000, .i32⟩ : BufTy).Contents (Elt F) → (⟨S300000, .i1⟩ : BufTy).Contents (Elt F)),
    StableHlo.nullary main_c_44 (constantI S_ 32 30001#32),
    StableHlo.unary main_c_44 main_v122 (broadcastInDim S300000 ![] bcast_S_S300000 : (⟨S_, .i32⟩ : BufTy).Contents (Elt F) → (⟨S300000, .i32⟩ : BufTy).Contents (Elt F)),
    StableHlo.binary main_v115 main_v122 main_v123 (addi : (⟨S300000, .i32⟩ : BufTy).Contents (Elt F) → (⟨S300000, .i32⟩ : BufTy).Contents (Elt F) → (⟨S300000, .i32⟩ : BufTy).Contents (Elt F)),
    StableHlo.ternary main_v121 main_v123 main_v115 main_v124 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_45 (constantI S_ 32 0#32),
    StableHlo.unary main_c_45 main_v125 (broadcastInDim S300000 ![] bcast_S_S300000 : (⟨S_, .i32⟩ : BufTy).Contents (Elt F) → (⟨S300000, .i32⟩ : BufTy).Contents (Elt F)),
    StableHlo.binary main_v116 main_v125 main_v126 (cmpi .slt : (⟨S300000, .i32⟩ : BufTy).Contents (Elt F) → (⟨S300000, .i32⟩ : BufTy).Contents (Elt F) → (⟨S300000, .i1⟩ : BufTy).Contents (Elt F)),
    StableHlo.nullary main_c_46 (constantI S_ 32 20#32),
    StableHlo.unary main_c_46 main_v127 (broadcastInDim S300000 ![] bcast_S_S300000 : (⟨S_, .i32⟩ : BufTy).Contents (Elt F) → (⟨S300000, .i32⟩ : BufTy).Contents (Elt F)),
    StableHlo.binary main_v116 main_v127 main_v128 (addi : (⟨S300000, .i32⟩ : BufTy).Contents (Elt F) → (⟨S300000, .i32⟩ : BufTy).Contents (Elt F) → (⟨S300000, .i32⟩ : BufTy).Contents (Elt F)),
    StableHlo.ternary main_v126 main_v128 main_v116 main_v129 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v124 main_v130 (broadcastInDim S300000x1 ![0] bcast_S300000_S300000x1_0 : (⟨S300000, .i32⟩ : BufTy).Contents (Elt F) → (⟨S300000x1, .i32⟩ : BufTy).Contents (Elt F)),
    StableHlo.unary main_v129 main_v131 (broadcastInDim S300000x1 ![0] bcast_S300000_S300000x1_0 : (⟨S300000, .i32⟩ : BufTy).Contents (Elt F) → (⟨S300000x1, .i32⟩ : BufTy).Contents (Elt F)),
    StableHlo.binary main_v130 main_v131 main_v132 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v117 main_v132 main_v119 main_v133 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v133 main_v134 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v114 main_v135 ((extui 32 · natLt_1_32) : (⟨S300000, .i1⟩ : BufTy).Contents (Elt F) → (⟨S300000, .i32⟩ : BufTy).Contents (Elt F)),
    StableHlo.nullary main_c_47 (constantI S_ 32 0#32),
    StableHlo.unary main_c_47 main_v136 (broadcastInDim S30001 ![] bcast_S_S30001 : (⟨S_, .i32⟩ : BufTy).Contents (Elt F) → (⟨S30001, .i32⟩ : BufTy).Contents (Elt F)),
    StableHlo.unary main_v115 main_v137 (broadcastInDim S300000x1 ![0] bcast_S300000_S300000x1_0 : (⟨S300000, .i32⟩ : BufTy).Contents (Elt F) → (⟨S300000x1, .i32⟩ : BufTy).Contents (Elt F)),
    StableHlo.ternary main_v136 main_v137 main_v135 main_v138 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v138 main_v139 ((extractStridedSlice S30000 ![0] · slices_S30001_S30000_0) : (⟨S30001, .i32⟩ : BufTy).Contents (Elt F) → (⟨S30000, .i32⟩ : BufTy).Contents (Elt F)),
    StableHlo.nullary main_c_48 (constantI S_ 32 4294967295#32),
    StableHlo.unary main_c_48 main_v140 (broadcastInDim S30001 ![] bcast_S_S30001 : (⟨S_, .i32⟩ : BufTy).Contents (Elt F) → (⟨S30001, .i32⟩ : BufTy).Contents (Elt F)),
    StableHlo.nullary main_c_49 (constantI S_ 32 30000#32),
    StableHlo.unary main_c_49 main_v141 (broadcastInDim S300000 ![] bcast_S_S300000 : (⟨S_, .i32⟩ : BufTy).Contents (Elt F) → (⟨S300000, .i32⟩ : BufTy).Contents (Elt F)),
    StableHlo.binary main_v64 main_v141 main_v142 (cmpi .slt : (⟨S300000, .i32⟩ : BufTy).Contents (Elt F) → (⟨S300000, .i32⟩ : BufTy).Contents (Elt F) → (⟨S300000, .i1⟩ : BufTy).Contents (Elt F)),
    StableHlo.binary main_v60 main_v142 main_v143 (andi : (⟨S300000, .i1⟩ : BufTy).Contents (Elt F) → (⟨S300000, .i1⟩ : BufTy).Contents (Elt F) → (⟨S300000, .i1⟩ : BufTy).Contents (Elt F)),
    StableHlo.nullary main_c_50 (constantI S_ 32 30000#32),
    StableHlo.TRef.unary (.of main_c_50 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S300000, .i32⟩) (broadcastInDim S300000 ![] bcast_S_S300000),
    StableHlo.TRef.ternary (.of main_v143 : StableHlo.TRef sig ⟨S300000, .i1⟩) (.of main_v64 : StableHlo.TRef sig ⟨S300000, .i32⟩) (.of main_call11_v1 : StableHlo.TRef sig ⟨S300000, .i32⟩) (.of main_v144 : StableHlo.TRef sig ⟨S300000, .i32⟩) select,
    StableHlo.nullary main_c_51 (constantI S_ 32 30000#32),
    StableHlo.unary main_c_51 main_v145 (broadcastInDim S300000 ![] bcast_S_S300000 : (⟨S_, .i32⟩ : BufTy).Contents (Elt F) → (⟨S300000, .i32⟩ : BufTy).Contents (Elt F)),
    StableHlo.binary main_v64 main_v145 main_v146 (cmpi .slt : (⟨S300000, .i32⟩ : BufTy).Contents (Elt F) → (⟨S300000, .i32⟩ : BufTy).Contents (Elt F) → (⟨S300000, .i1⟩ : BufTy).Contents (Elt F)),
    StableHlo.binary main_v60 main_v146 main_v147 (andi : (⟨S300000, .i1⟩ : BufTy).Contents (Elt F) → (⟨S300000, .i1⟩ : BufTy).Contents (Elt F) → (⟨S300000, .i1⟩ : BufTy).Contents (Elt F)),
    StableHlo.nullary main_c_52 (constantI S_ 32 4294967295#32),
    StableHlo.TRef.unary (.of main_c_52 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S300000, .i32⟩) (broadcastInDim S300000 ![] bcast_S_S300000),
    StableHlo.TRef.ternary (.of main_v147 : StableHlo.TRef sig ⟨S300000, .i1⟩) (.of main_v42 : StableHlo.TRef sig ⟨S300000, .i32⟩) (.of main_call12_v1 : StableHlo.TRef sig ⟨S300000, .i32⟩) (.of main_v148 : StableHlo.TRef sig ⟨S300000, .i32⟩) select,
    StableHlo.nullary main_c_53 (constantI S_ 32 0#32),
    StableHlo.unary main_c_53 main_v149 (broadcastInDim S300000 ![] bcast_S_S300000 : (⟨S_, .i32⟩ : BufTy).Contents (Elt F) → (⟨S300000, .i32⟩ : BufTy).Contents (Elt F)),
    StableHlo.binary main_v144 main_v149 main_v150 (cmpi .slt : (⟨S300000, .i32⟩ : BufTy).Contents (Elt F) → (⟨S300000, .i32⟩ : BufTy).Contents (Elt F) → (⟨S300000, .i1⟩ : BufTy).Contents (Elt F)),
    StableHlo.nullary main_c_54 (constantI S_ 32 30001#32),
    StableHlo.unary main_c_54 main_v151 (broadcastInDim S300000 ![] bcast_S_S300000 : (⟨S_, .i32⟩ : BufTy).Contents (Elt F) → (⟨S300000, .i32⟩ : BufTy).Contents (Elt F)),
    StableHlo.binary main_v144 main_v151 main_v152 (addi : (⟨S300000, .i32⟩ : BufTy).Contents (Elt F) → (⟨S300000, .i32⟩ : BufTy).Contents (Elt F) → (⟨S300000, .i32⟩ : BufTy).Contents (Elt F)),
    StableHlo.ternary main_v150 main_v152 main_v144 main_v153 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v153 main_v154 (broadcastInDim S300000x1 ![0] bcast_S300000_S300000x1_0 : (⟨S300000, .i32⟩ : BufTy).Contents (Elt F) → (⟨S300000x1, .i32⟩ : BufTy).Contents (Elt F)),
    StableHlo.ternary main_v140 main_v154 main_v148 main_v155 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v155 main_v156 ((extractStridedSlice S30000 ![0] · slices_S30001_S30000_0) : (⟨S30001, .i32⟩ : BufTy).Contents (Elt F) → (⟨S30000, .i32⟩ : BufTy).Contents (Elt F)),
    StableHlo.nullary main_c_55 (constantI S_ 32 0#32),
    StableHlo.unary main_c_55 main_v157 (broadcastInDim S30000 ![] bcast_S_S30000 : (⟨S_, .i32⟩ : BufTy).Contents (Elt F) → (⟨S30000, .i32⟩ : BufTy).Contents (Elt F)),
    StableHlo.binary main_v156 main_v157 main_v158 (cmpi .sge : (⟨S30000, .i32⟩ : BufTy).Contents (Elt F) → (⟨S30000, .i32⟩ : BufTy).Contents (Elt F) → (⟨S30000, .i1⟩ : BufTy).Contents (Elt F)),
    StableHlo.nullary main_c_56 (constantI S_ 32 262144#32),
    StableHlo.TRef.unary (.of main_c_56 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S30000, .i32⟩) (broadcastInDim S30000 ![] bcast_S_S30000),
    StableHlo.TRef.binary (.of main_v156 : StableHlo.TRef sig ⟨S30000, .i32⟩) (.of main_call13_v1 : StableHlo.TRef sig ⟨S30000, .i32⟩) (.of main_call13_v2 : StableHlo.TRef sig ⟨S30000, .i32⟩) Host.divsi,
    StableHlo.TRef.unary (.of main_v156 : StableHlo.TRef sig ⟨S30000, .i32⟩) (.of main_call13_v3 : StableHlo.TRef sig ⟨S30000, .i32⟩) signi,
    StableHlo.TRef.unary (.of main_call13_v0 : StableHlo.TRef sig ⟨S_, .i32⟩) (.of main_call13_v4 : StableHlo.TRef sig ⟨S_, .i32⟩) signi,
    StableHlo.TRef.unary (.of main_call13_v4 : StableHlo.TRef sig ⟨S_, .i32⟩) (.of main_call13_v5 : StableHlo.TRef sig ⟨S30000, .i32⟩) (broadcastInDim S30000 ![] bcast_S_S30000),
    StableHlo.TRef.binary (.of main_call13_v3 : StableHlo.TRef sig ⟨S30000, .i32⟩) (.of main_call13_v5 : StableHlo.TRef sig ⟨S30000, .i32⟩) (.of main_call13_v6 : StableHlo.TRef sig ⟨S30000, .i1⟩) (cmpi .ne),
    StableHlo.TRef.unary (.of main_call13_v0 : StableHlo.TRef sig ⟨S_, .i32⟩) (.of main_call13_v7 : StableHlo.TRef sig ⟨S30000, .i32⟩) (broadcastInDim S30000 ![] bcast_S_S30000),
    StableHlo.TRef.binary (.of main_v156 : StableHlo.TRef sig ⟨S30000, .i32⟩) (.of main_call13_v7 : StableHlo.TRef sig ⟨S30000, .i32⟩) (.of main_call13_v8 : StableHlo.TRef sig ⟨S30000, .i32⟩) Host.remsi,
    StableHlo.TRef.nullary (.of main_call13_c : StableHlo.TRef sig ⟨S_, .i32⟩) (constantI S_ 32 0#32),
    StableHlo.TRef.unary (.of main_call13_c : StableHlo.TRef sig ⟨S_, .i32⟩) (.of main_call13_v9 : StableHlo.TRef sig ⟨S30000, .i32⟩) (broadcastInDim S30000 ![] bcast_S_S30000),
    StableHlo.TRef.binary (.of main_call13_v8 : StableHlo.TRef sig ⟨S30000, .i32⟩) (.of main_call13_v9 : StableHlo.TRef sig ⟨S30000, .i32⟩) (.of main_call13_v10 : StableHlo.TRef sig ⟨S30000, .i1⟩) (cmpi .ne),
    StableHlo.TRef.binary (.of main_call13_v6 : StableHlo.TRef sig ⟨S30000, .i1⟩) (.of main_call13_v10 : StableHlo.TRef sig ⟨S30000, .i1⟩) (.of main_call13_v11 : StableHlo.TRef sig ⟨S30000, .i1⟩) andi,
    StableHlo.TRef.nullary (.of main_call13_c_0 : StableHlo.TRef sig ⟨S_, .i32⟩) (constantI S_ 32 1#32),
    StableHlo.TRef.unary (.of main_call13_c_0 : StableHlo.TRef sig ⟨S_, .i32⟩) (.of main_call13_v12 : StableHlo.TRef sig ⟨S30000, .i32⟩) (broadcastInDim S30000 ![] bcast_S_S30000),
    StableHlo.TRef.binary (.of main_call13_v2 : StableHlo.TRef sig ⟨S30000, .i32⟩) (.of main_call13_v12 : StableHlo.TRef sig ⟨S30000, .i32⟩) (.of main_call13_v13 : StableHlo.TRef sig ⟨S30000, .i32⟩) subi,
    StableHlo.TRef.ternary (.of main_call13_v11 : StableHlo.TRef sig ⟨S30000, .i1⟩) (.of main_call13_v13 : StableHlo.TRef sig ⟨S30000, .i32⟩) (.of main_call13_v2 : StableHlo.TRef sig ⟨S30000, .i32⟩) (.of main_v159 : StableHlo.TRef sig ⟨S30000, .i32⟩) select,
    StableHlo.nullary main_c_57 (constantI S_ 32 4294967295#32),
    StableHlo.TRef.unary (.of main_c_57 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S30000, .i32⟩) (broadcastInDim S30000 ![] bcast_S_S30000),
    StableHlo.TRef.ternary (.of main_v158 : StableHlo.TRef sig ⟨S30000, .i1⟩) (.of main_v159 : StableHlo.TRef sig ⟨S30000, .i32⟩) (.of main_call14_v1 : StableHlo.TRef sig ⟨S30000, .i32⟩) (.of main_v160 : StableHlo.TRef sig ⟨S30000, .i32⟩) select,
    StableHlo.nullary main_c_58 (constantI S_ 32 0#32),
    StableHlo.unary main_c_58 main_v161 (broadcastInDim S30000 ![] bcast_S_S30000 : (⟨S_, .i32⟩ : BufTy).Contents (Elt F) → (⟨S30000, .i32⟩ : BufTy).Contents (Elt F)),
    StableHlo.binary main_v156 main_v161 main_v162 (cmpi .sge : (⟨S30000, .i32⟩ : BufTy).Contents (Elt F) → (⟨S30000, .i32⟩ : BufTy).Contents (Elt F) → (⟨S30000, .i1⟩ : BufTy).Contents (Elt F)),
    StableHlo.nullary main_c_59 (constantI S_ 32 512#32),
    StableHlo.TRef.unary (.of main_c_59 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S30000, .i32⟩) (broadcastInDim S30000 ![] bcast_S_S30000),
    StableHlo.TRef.binary (.of main_v156 : StableHlo.TRef sig ⟨S30000, .i32⟩) (.of main_call15_v1 : StableHlo.TRef sig ⟨S30000, .i32⟩) (.of main_call15_v2 : StableHlo.TRef sig ⟨S30000, .i32⟩) Host.divsi,
    StableHlo.TRef.unary (.of main_v156 : StableHlo.TRef sig ⟨S30000, .i32⟩) (.of main_call15_v3 : StableHlo.TRef sig ⟨S30000, .i32⟩) signi,
    StableHlo.TRef.unary (.of main_call15_v0 : StableHlo.TRef sig ⟨S_, .i32⟩) (.of main_call15_v4 : StableHlo.TRef sig ⟨S_, .i32⟩) signi,
    StableHlo.TRef.unary (.of main_call15_v4 : StableHlo.TRef sig ⟨S_, .i32⟩) (.of main_call15_v5 : StableHlo.TRef sig ⟨S30000, .i32⟩) (broadcastInDim S30000 ![] bcast_S_S30000),
    StableHlo.TRef.binary (.of main_call15_v3 : StableHlo.TRef sig ⟨S30000, .i32⟩) (.of main_call15_v5 : StableHlo.TRef sig ⟨S30000, .i32⟩) (.of main_call15_v6 : StableHlo.TRef sig ⟨S30000, .i1⟩) (cmpi .ne),
    StableHlo.TRef.unary (.of main_call15_v0 : StableHlo.TRef sig ⟨S_, .i32⟩) (.of main_call15_v7 : StableHlo.TRef sig ⟨S30000, .i32⟩) (broadcastInDim S30000 ![] bcast_S_S30000),
    StableHlo.TRef.binary (.of main_v156 : StableHlo.TRef sig ⟨S30000, .i32⟩) (.of main_call15_v7 : StableHlo.TRef sig ⟨S30000, .i32⟩) (.of main_call15_v8 : StableHlo.TRef sig ⟨S30000, .i32⟩) Host.remsi,
    StableHlo.TRef.nullary (.of main_call15_c : StableHlo.TRef sig ⟨S_, .i32⟩) (constantI S_ 32 0#32),
    StableHlo.TRef.unary (.of main_call15_c : StableHlo.TRef sig ⟨S_, .i32⟩) (.of main_call15_v9 : StableHlo.TRef sig ⟨S30000, .i32⟩) (broadcastInDim S30000 ![] bcast_S_S30000),
    StableHlo.TRef.binary (.of main_call15_v8 : StableHlo.TRef sig ⟨S30000, .i32⟩) (.of main_call15_v9 : StableHlo.TRef sig ⟨S30000, .i32⟩) (.of main_call15_v10 : StableHlo.TRef sig ⟨S30000, .i1⟩) (cmpi .ne),
    StableHlo.TRef.binary (.of main_call15_v6 : StableHlo.TRef sig ⟨S30000, .i1⟩) (.of main_call15_v10 : StableHlo.TRef sig ⟨S30000, .i1⟩) (.of main_call15_v11 : StableHlo.TRef sig ⟨S30000, .i1⟩) andi,
    StableHlo.TRef.nullary (.of main_call15_c_0 : StableHlo.TRef sig ⟨S_, .i32⟩) (constantI S_ 32 1#32),
    StableHlo.TRef.unary (.of main_call15_c_0 : StableHlo.TRef sig ⟨S_, .i32⟩) (.of main_call15_v12 : StableHlo.TRef sig ⟨S30000, .i32⟩) (broadcastInDim S30000 ![] bcast_S_S30000),
    StableHlo.TRef.binary (.of main_call15_v2 : StableHlo.TRef sig ⟨S30000, .i32⟩) (.of main_call15_v12 : StableHlo.TRef sig ⟨S30000, .i32⟩) (.of main_call15_v13 : StableHlo.TRef sig ⟨S30000, .i32⟩) subi,
    StableHlo.TRef.ternary (.of main_call15_v11 : StableHlo.TRef sig ⟨S30000, .i1⟩) (.of main_call15_v13 : StableHlo.TRef sig ⟨S30000, .i32⟩) (.of main_call15_v2 : StableHlo.TRef sig ⟨S30000, .i32⟩) (.of main_v163 : StableHlo.TRef sig ⟨S30000, .i32⟩) select,
    StableHlo.nullary main_c_60 (constantI S_ 32 512#32),
    StableHlo.TRef.unary (.of main_c_60 : StableHlo.TRef sig ⟨S_, .i32⟩) (.of main_call16_v0 : StableHlo.TRef sig ⟨S_, .i32⟩) id,
    StableHlo.TRef.nullary (.of main_call16_c : StableHlo.TRef sig ⟨S_, .i32⟩) (constantI S_ 32 0#32),
    StableHlo.TRef.binary (.of main_call16_v0 : StableHlo.TRef sig ⟨S_, .i32⟩) (.of main_call16_c : StableHlo.TRef sig ⟨S_, .i32⟩) (.of main_call16_v1 : StableHlo.TRef sig ⟨S_, .i1⟩) (cmpi .eq),
    StableHlo.TRef.nullary (.of main_call16_c_0 : StableHlo.TRef sig ⟨S_, .i32⟩) (constantI S_ 32 1#32),
    StableHlo.TRef.ternary (.of main_call16_v1 : StableHlo.TRef sig ⟨S_, .i1⟩) (.of main_call16_c_0 : StableHlo.TRef sig ⟨S_, .i32⟩) (.of main_call16_v0 : StableHlo.TRef sig ⟨S_, .i32⟩) (.of main_call16_v2 : StableHlo.TRef sig ⟨S_, .i32⟩) select,
    StableHlo.TRef.unary (.of main_call16_v2 : StableHlo.TRef sig ⟨S_, .i32⟩) (.of main_call16_v3 : StableHlo.TRef sig ⟨S30000, .i32⟩) (broadcastInDim S30000 ![] bcast_S_S30000),
    StableHlo.TRef.binary (.of main_v163 : StableHlo.TRef sig ⟨S30000, .i32⟩) (.of main_call16_v3 : StableHlo.TRef sig ⟨S30000, .i32⟩) (.of main_call16_v4 : StableHlo.TRef sig ⟨S30000, .i32⟩) Host.remsi,
    StableHlo.TRef.nullary (.of main_call16_c_1 : StableHlo.TRef sig ⟨S_, .i32⟩) (constantI S_ 32 0#32),
    StableHlo.TRef.unary (.of main_call16_c_1 : StableHlo.TRef sig ⟨S_, .i32⟩) (.of main_call16_v5 : StableHlo.TRef sig ⟨S30000, .i32⟩) (broadcastInDim S30000 ![] bcast_S_S30000),
    StableHlo.TRef.binary (.of main_call16_v4 : StableHlo.TRef sig ⟨S30000, .i32⟩) (.of main_call16_v5 : StableHlo.TRef sig ⟨S30000, .i32⟩) (.of main_call16_v6 : StableHlo.TRef sig ⟨S30000, .i1⟩) (cmpi .ne),
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v7 : StableHlo.TRef sig ⟨S30000, .i32⟩) (broadcastInDim S30000 ![] bcast_S_S30000),
    StableHlo.TRef.binary (.of main_call16_v4 : StableHlo.TRef sig ⟨S30000, .i32⟩) (.of main_call16_v7 : StableHlo.TRef sig ⟨S30000, .i32⟩) (.of main_call16_v8 : StableHlo.TRef sig ⟨S30000, .i1⟩) (cmpi .slt),
    StableHlo.TRef.nullary (.of main_call16_c_3 : StableHlo.TRef sig ⟨S_, .i32⟩) (constantI S_ 32 0#32),
    StableHlo.TRef.binary (.of main_call16_v2 : StableHlo.TRef sig ⟨S_, .i32⟩) (.of main_call16_c_3 : StableHlo.TRef sig ⟨S_, .i32⟩) (.of main_call16_v9 : StableHlo.TRef sig ⟨S_, .i1⟩) (cmpi .slt),
    StableHlo.TRef.unary (.of main_call16_v9 : StableHlo.TRef sig ⟨S_, .i1⟩) (.of main_call16_v10 : StableHlo.TRef sig ⟨S30000, .i1⟩) (broadcastInDim S30000 ![] bcast_S_S30000),
    StableHlo.TRef.binary (.of main_call16_v8 : StableHlo.TRef sig ⟨S30000, .i1⟩) (.of main_call16_v10 : StableHlo.TRef sig ⟨S30000, .i1⟩) (.of main_call16_v11 : StableHlo.TRef sig ⟨S30000, .i1⟩) (cmpi .ne),
    StableHlo.TRef.binary (.of main_call16_v11 : StableHlo.TRef sig ⟨S30000, .i1⟩) (.of main_call16_v6 : StableHlo.TRef sig ⟨S30000, .i1⟩) (.of main_call16_v12 : StableHlo.TRef sig ⟨S30000, .i1⟩) andi,
    StableHlo.TRef.unary (.of main_call16_v2 : StableHlo.TRef sig ⟨S_, .i32⟩) (.of main_call16_v13 : StableHlo.TRef sig ⟨S30000, .i32⟩) (broadcastInDim S30000 ![] bcast_S_S30000),
    StableHlo.TRef.binary (.of main_call16_v4 : StableHlo.TRef sig ⟨S30000, .i32⟩) (.of main_call16_v13 : StableHlo.TRef sig ⟨S30000, .i32⟩) (.of main_call16_v14 : StableHlo.TRef sig ⟨S30000, .i32⟩) addi,
    StableHlo.TRef.ternary (.of main_call16_v12 : StableHlo.TRef sig ⟨S30000, .i1⟩) (.of main_call16_v14 : StableHlo.TRef sig ⟨S30000, .i32⟩) (.of main_call16_v4 : StableHlo.TRef sig ⟨S30000, .i32⟩) (.of main_v164 : StableHlo.TRef sig ⟨S30000, .i32⟩) select,
    StableHlo.nullary main_c_61 (constantI S_ 32 4294967295#32),
    StableHlo.TRef.unary (.of main_c_61 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S30000, .i32⟩) (broadcastInDim S30000 ![] bcast_S_S30000),
    StableHlo.TRef.ternary (.of main_v162 : StableHlo.TRef sig ⟨S30000, .i1⟩) (.of main_v164 : StableHlo.TRef sig ⟨S30000, .i32⟩) (.of main_call17_v1 : StableHlo.TRef sig ⟨S30000, .i32⟩) (.of main_v165 : StableHlo.TRef sig ⟨S30000, .i32⟩) select,
    StableHlo.nullary main_c_62 (constantI S_ 32 0#32),
    StableHlo.unary main_c_62 main_v166 (broadcastInDim S30000 ![] bcast_S_S30000 : (⟨S_, .i32⟩ : BufTy).Contents (Elt F) → (⟨S30000, .i32⟩ : BufTy).Contents (Elt F)),
    StableHlo.binary main_v156 main_v166 main_v167 (cmpi .sge : (⟨S30000, .i32⟩ : BufTy).Contents (Elt F) → (⟨S30000, .i32⟩ : BufTy).Contents (Elt F) → (⟨S30000, .i1⟩ : BufTy).Contents (Elt F)),
    StableHlo.nullary main_c_63 (constantI S_ 32 512#32),
    StableHlo.TRef.unary (.of main_c_63 : StableHlo.TRef sig ⟨S_, .i32⟩) (.of main_call18_v0 : StableHlo.TRef sig ⟨S_, .i32⟩) id,
    StableHlo.TRef.nullary (.of main_call18_c : StableHlo.TRef sig ⟨S_, .i32⟩) (constantI S_ 32 0#32),
    StableHlo.TRef.binary (.of main_call18_v0 : StableHlo.TRef sig ⟨S_, .i32⟩) (.of main_call18_c : StableHlo.TRef sig ⟨S_, .i32⟩) (.of main_call18_v1 : StableHlo.TRef sig ⟨S_, .i1⟩) (cmpi .eq),
    StableHlo.TRef.nullary (.of main_call18_c_0 : StableHlo.TRef sig ⟨S_, .i32⟩) (constantI S_ 32 1#32),
    StableHlo.TRef.ternary (.of main_call18_v1 : StableHlo.TRef sig ⟨S_, .i1⟩) (.of main_call18_c_0 : StableHlo.TRef sig ⟨S_, .i32⟩) (.of main_call18_v0 : StableHlo.TRef sig ⟨S_, .i32⟩) (.of main_call18_v2 : StableHlo.TRef sig ⟨S_, .i32⟩) select,
    StableHlo.TRef.unary (.of main_call18_v2 : StableHlo.TRef sig ⟨S_, .i32⟩) (.of main_call18_v3 : StableHlo.TRef sig ⟨S30000, .i32⟩) (broadcastInDim S30000 ![] bcast_S_S30000),
    StableHlo.TRef.binary (.of main_v156 : StableHlo.TRef sig ⟨S30000, .i32⟩) (.of main_call18_v3 : StableHlo.TRef sig ⟨S30000, .i32⟩) (.of main_call18_v4 : StableHlo.TRef sig ⟨S30000, .i32⟩) Host.remsi,
    StableHlo.TRef.nullary (.of main_call18_c_1 : StableHlo.TRef sig ⟨S_, .i32⟩) (constantI S_ 32 0#32),
    StableHlo.TRef.unary (.of main_call18_c_1 : StableHlo.TRef sig ⟨S_, .i32⟩) (.of main_call18_v5 : StableHlo.TRef sig ⟨S30000, .i32⟩) (broadcastInDim S30000 ![] bcast_S_S30000),
    StableHlo.TRef.binary (.of main_call18_v4 : StableHlo.TRef sig ⟨S30000, .i32⟩) (.of main_call18_v5 : StableHlo.TRef sig ⟨S30000, .i32⟩) (.of main_call18_v6 : StableHlo.TRef sig ⟨S30000, .i1⟩) (cmpi .ne),
    StableHlo.TRef.nullary (.of main_call18_c_2 : StableHlo.TRef sig ⟨S_, .i32⟩) (constantI S_ 32 0#32),
    StableHlo.TRef.unary (.of main_call18_c_2 : StableHlo.TRef sig ⟨S_, .i32⟩) (.of main_call18_v7 : StableHlo.TRef sig ⟨S30000, .i32⟩) (broadcastInDim S30000 ![] bcast_S_S30000),
    StableHlo.TRef.binary (.of main_call18_v4 : StableHlo.TRef sig ⟨S30000, .i32⟩) (.of main_call18_v7 : StableHlo.TRef sig ⟨S30000, .i32⟩) (.of main_call18_v8 : StableHlo.TRef sig ⟨S30000, .i1⟩) (cmpi .slt),
    StableHlo.TRef.nullary (.of main_call18_c_3 : StableHlo.TRef sig ⟨S_, .i32⟩) (constantI S_ 32 0#32),
    StableHlo.TRef.binary (.of main_call18_v2 : StableHlo.TRef sig ⟨S_, .i32⟩) (.of main_call18_c_3 : StableHlo.TRef sig ⟨S_, .i32⟩) (.of main_call18_v9 : StableHlo.TRef sig ⟨S_, .i1⟩) (cmpi .slt),
    StableHlo.TRef.unary (.of main_call18_v9 : StableHlo.TRef sig ⟨S_, .i1⟩) (.of main_call18_v10 : StableHlo.TRef sig ⟨S30000, .i1⟩) (broadcastInDim S30000 ![] bcast_S_S30000),
    StableHlo.TRef.binary (.of main_call18_v8 : StableHlo.TRef sig ⟨S30000, .i1⟩) (.of main_call18_v10 : StableHlo.TRef sig ⟨S30000, .i1⟩) (.of main_call18_v11 : StableHlo.TRef sig ⟨S30000, .i1⟩) (cmpi .ne),
    StableHlo.TRef.binary (.of main_call18_v11 : StableHlo.TRef sig ⟨S30000, .i1⟩) (.of main_call18_v6 : StableHlo.TRef sig ⟨S30000, .i1⟩) (.of main_call18_v12 : StableHlo.TRef sig ⟨S30000, .i1⟩) andi,
    StableHlo.TRef.unary (.of main_call18_v2 : StableHlo.TRef sig ⟨S_, .i32⟩) (.of main_call18_v13 : StableHlo.TRef sig ⟨S30000, .i32⟩) (broadcastInDim S30000 ![] bcast_S_S30000),
    StableHlo.TRef.binary (.of main_call18_v4 : StableHlo.TRef sig ⟨S30000, .i32⟩) (.of main_call18_v13 : StableHlo.TRef sig ⟨S30000, .i32⟩) (.of main_call18_v14 : StableHlo.TRef sig ⟨S30000, .i32⟩) addi,
    StableHlo.TRef.ternary (.of main_call18_v12 : StableHlo.TRef sig ⟨S30000, .i1⟩) (.of main_call18_v14 : StableHlo.TRef sig ⟨S30000, .i32⟩) (.of main_call18_v4 : StableHlo.TRef sig ⟨S30000, .i32⟩) (.of main_v168 : StableHlo.TRef sig ⟨S30000, .i32⟩) select,
    StableHlo.nullary main_c_64 (constantI S_ 32 4294967295#32),
    StableHlo.TRef.unary (.of main_c_64 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S30000, .i32⟩) (broadcastInDim S30000 ![] bcast_S_S30000),
    StableHlo.TRef.ternary (.of main_v167 : StableHlo.TRef sig ⟨S30000, .i1⟩) (.of main_v168 : StableHlo.TRef sig ⟨S30000, .i32⟩) (.of main_call19_v1 : StableHlo.TRef sig ⟨S30000, .i32⟩) (.of main_v169 : StableHlo.TRef sig ⟨S30000, .i32⟩) select,
    StableHlo.unary main_v160 main_v170 (broadcastInDim S30000x1 ![0] bcast_S30000_S30000x1_0 : (⟨S30000, .i32⟩ : BufTy).Contents (Elt F) → (⟨S30000x1, .i32⟩ : BufTy).Contents (Elt F)),
    StableHlo.unary main_v165 main_v171 (broadcastInDim S30000x1 ![0] bcast_S30000_S30000x1_0 : (⟨S30000, .i32⟩ : BufTy).Contents (Elt F) → (⟨S30000x1, .i32⟩ : BufTy).Contents (Elt F)),
    StableHlo.unary main_v169 main_v172 (broadcastInDim S30000x1 ![0] bcast_S30000_S30000x1_0 : (⟨S30000, .i32⟩ : BufTy).Contents (Elt F) → (⟨S30000x1, .i32⟩ : BufTy).Contents (Elt F)),
    StableHlo.nary ![main_v170, main_v171, main_v172] main_v173 (fun u => concatenate S30000x3 1 [⟨S30000x1, u 0⟩, ⟨S30000x1, u 1⟩, ⟨S30000x1, u 2⟩] concatenates_S30000x1_S30000x1_S30000x1_S30000x3_d1),
    StableHlo.nullary main_c_65 (constantI S_ 32 0#32),
    StableHlo.unary main_c_65 main_v174 (broadcastInDim S30000x1 ![] bcast_S_S30000x1 : (⟨S_, .i32⟩ : BufTy).Contents (Elt F) → (⟨S30000x1, .i32⟩ : BufTy).Contents (Elt F)),
    StableHlo.binary main_v174 main_v173 main_v175 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- 23 operations: from %176 through %189. -/
abbrev ptsOps1 : List (HloOp τ sig (Elt F)) :=
  [ StableHlo.unary main_arg0 main_v176 ((extractStridedSlice S1x300000x5 ![1, 0, 0] · slices_S4x300000x5_S1x300000x5_1_0_0) : (⟨S4x300000x5, .f32⟩ : BufTy).Contents (Elt F) → (⟨S1x300000x5, .f32⟩ : BufTy).Contents (Elt F)),
    StableHlo.reshape main_v176 main_v177 rfl shapeCasts_S1x300000x5_S300000x5,
    StableHlo.nullary main_c_66 (constantI S_ 32 0#32),
    StableHlo.unary main_c_66 main_v178 (broadcastInDim S1 ![] bcast_S_S1 : (⟨S_, .i32⟩ : BufTy).Contents (Elt F) → (⟨S1, .i32⟩ : BufTy).Contents (Elt F)),
    StableHlo.nullary main_c_67 (constantI S_ 32 0#32),
    StableHlo.unary main_c_67 main_v179 (broadcastInDim S1 ![] bcast_S_S1 : (⟨S_, .i32⟩ : BufTy).Contents (Elt F) → (⟨S1, .i32⟩ : BufTy).Contents (Elt F)),
    StableHlo.binary main_v178 main_v179 main_v180 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_68 (constant S_ .f32 0x3F400000#32),
    StableHlo.ternary main_v177 main_v180 main_cst_68 main_v181 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_69 (constantI S_ 32 0#32),
    StableHlo.unary main_c_69 main_v182 (broadcastInDim S1 ![] bcast_S_S1 : (⟨S_, .i32⟩ : BufTy).Contents (Elt F) → (⟨S1, .i32⟩ : BufTy).Contents (Elt F)),
    StableHlo.nullary main_c_70 (constantI S_ 32 1#32),
    StableHlo.unary main_c_70 main_v183 (broadcastInDim S1 ![] bcast_S_S1 : (⟨S_, .i32⟩ : BufTy).Contents (Elt F) → (⟨S1, .i32⟩ : BufTy).Contents (Elt F)),
    StableHlo.binary main_v182 main_v183 main_v184 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_71 (constant S_ .f32 0x3E800000#32),
    StableHlo.ternary main_v181 main_v184 main_cst_71 main_v185 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_72 (constantI S_ 32 0#32),
    StableHlo.unary main_c_72 main_v186 (broadcastInDim S1 ![] bcast_S_S1 : (⟨S_, .i32⟩ : BufTy).Contents (Elt F) → (⟨S1, .i32⟩ : BufTy).Contents (Elt F)),
    StableHlo.nullary main_c_73 (constantI S_ 32 2#32),
    StableHlo.unary main_c_73 main_v187 (broadcastInDim S1 ![] bcast_S_S1 : (⟨S_, .i32⟩ : BufTy).Contents (Elt F) → (⟨S1, .i32⟩ : BufTy).Contents (Elt F)),
    StableHlo.binary main_v186 main_v187 main_v188 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_74 (constant S_ .f32 0x40000000#32),
    StableHlo.ternary main_v185 main_v188 main_cst_74 main_v189 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]

set_option maxHeartbeats 40000000 in
/-- 36 operations: from %190 through %218. -/
abbrev linOps1 : List (HloOp τ sig (Elt F)) :=
  [ StableHlo.unary main_v189 main_v190 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v191 (broadcastInDim S1x3 ![1] bcast_S3_S1x3_1 : (⟨S3, .f32⟩ : BufTy).Contents (Elt F) → (⟨S1x3, .f32⟩ : BufTy).Contents (Elt F)),
    StableHlo.unary main_v191 main_v192 (broadcastInDim S300000x3 ![0, 1] bcast_S1x3_S300000x3_0_1 : (⟨S1x3, .f32⟩ : BufTy).Contents (Elt F) → (⟨S300000x3, .f32⟩ : BufTy).Contents (Elt F)),
    StableHlo.binary main_v190 main_v192 main_v193 (subf : (⟨S300000x3, .f32⟩ : BufTy).Contents (Elt F) → (⟨S300000x3, .f32⟩ : BufTy).Contents (Elt F) → (⟨S300000x3, .f32⟩ : BufTy).Contents (Elt F)),
    StableHlo.unary main_cst_0 main_v194 (broadcastInDim S1x3 ![1] bcast_S3_S1x3_1 : (⟨S3, .f32⟩ : BufTy).Contents (Elt F) → (⟨S1x3, .f32⟩ : BufTy).Contents (Elt F)),
    StableHlo.unary main_v194 main_v195 (broadcastInDim S300000x3 ![0, 1] bcast_S1x3_S300000x3_0_1 : (⟨S1x3, .f32⟩ : BufTy).Contents (Elt F) → (⟨S300000x3, .f32⟩ : BufTy).Contents (Elt F)),
    StableHlo.binary main_v193 main_v195 main_v196 (Host.divf : (⟨S300000x3, .f32⟩ : BufTy).Contents (Elt F) → (⟨S300000x3, .f32⟩ : BufTy).Contents (Elt F) → (⟨S300000x3, .f32⟩ : BufTy).Contents (Elt F)),
    StableHlo.unary main_v196 main_v197 (Host.floor : (⟨S300000x3, .f32⟩ : BufTy).Contents (Elt F) → (⟨S300000x3, .f32⟩ : BufTy).Contents (Elt F)),
    StableHlo.unary main_v197 main_v198 (fptosi 32 : (⟨S300000x3, .f32⟩ : BufTy).Contents (Elt F) → (⟨S300000x3, .i32⟩ : BufTy).Contents (Elt F)),
    StableHlo.nullary main_c_75 (constantI S_ 32 0#32),
    StableHlo.unary main_c_75 main_v199 (broadcastInDim S300000x3 ![] bcast_S_S300000x3 : (⟨S_, .i32⟩ : BufTy).Contents (Elt F) → (⟨S300000x3, .i32⟩ : BufTy).Contents (Elt F)),
    StableHlo.binary main_v198 main_v199 main_v200 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v201 (broadcastInDim S1x3 ![1] bcast_S3_S1x3_1 : (⟨S3, .i32⟩ : BufTy).Contents (Elt F) → (⟨S1x3, .i32⟩ : BufTy).Contents (Elt F)),
    StableHlo.unary main_v201 main_v202 (broadcastInDim S300000x3 ![0, 1] bcast_S1x3_S300000x3_0_1 : (⟨S1x3, .i32⟩ : BufTy).Contents (Elt F) → (⟨S300000x3, .i32⟩ : BufTy).Contents (Elt F)),
    StableHlo.binary main_v198 main_v202 main_v203 (cmpi .slt : (⟨S300000x3, .i32⟩ : BufTy).Contents (Elt F) → (⟨S300000x3, .i32⟩ : BufTy).Contents (Elt F) → (⟨S300000x3, .i1⟩ : BufTy).Contents (Elt F)),
    StableHlo.binary main_v200 main_v203 main_v204 (andi : (⟨S300000x3, .i1⟩ : BufTy).Contents (Elt F) → (⟨S300000x3, .i1⟩ : BufTy).Contents (Elt F) → (⟨S300000x3, .i1⟩ : BufTy).Contents (Elt F)),
    StableHlo.nullary main_c_76 (constantI S_ 1 1#1),
    StableHlo.binary main_v204 main_c_76 main_v205 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v198 main_v206 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v206 main_v207 rfl shapeCasts_S300000x1_S300000,
    StableHlo.nullary main_c_77 (constantI S_ 32 512#32),
    StableHlo.unary main_c_77 main_v208 (broadcastInDim S300000 ![] bcast_S_S300000 : (⟨S_, .i32⟩ : BufTy).Contents (Elt F) → (⟨S300000, .i32⟩ : BufTy).Contents (Elt F)),
    StableHlo.binary main_v207 main_v208 main_v209 (muli : (⟨S300000, .i32⟩ : BufTy).Contents (Elt F) → (⟨S300000, .i32⟩ : BufTy).Contents (Elt F) → (⟨S300000, .i32⟩ : BufTy).Contents (Elt F)),
    StableHlo.unary main_v198 main_v210 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v210 main_v211 rfl shapeCasts_S300000x1_S300000,
    StableHlo.binary main_v209 main_v211 main_v212 (addi : (⟨S300000, .i32⟩ : BufTy).Contents (Elt F) → (⟨S300000, .i32⟩ : BufTy).Contents (Elt F) → (⟨S300000, .i32⟩ : BufTy).Contents (Elt F)),
    StableHlo.nullary main_c_78 (constantI S_ 32 512#32),
    StableHlo.unary main_c_78 main_v213 (broadcastInDim S300000 ![] bcast_S_S300000 : (⟨S_, .i32⟩ : BufTy).Contents (Elt F) → (⟨S300000, .i32⟩ : BufTy).Contents (Elt F)),
    StableHlo.binary main_v212 main_v213 main_v214 (muli : (⟨S300000, .i32⟩ : BufTy).Contents (Elt F) → (⟨S300000, .i32⟩ : BufTy).Contents (Elt F) → (⟨S300000, .i32⟩ : BufTy).Contents (Elt F)),
    StableHlo.unary main_v198 main_v215 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v215 main_v216 rfl shapeCasts_S300000x1_S300000,
    StableHlo.binary main_v214 main_v216 main_v217 (addi : (⟨S300000, .i32⟩ : BufTy).Contents (Elt F) → (⟨S300000, .i32⟩ : BufTy).Contents (Elt F) → (⟨S300000, .i32⟩ : BufTy).Contents (Elt F)),
    StableHlo.nullary main_c_79 (constantI S_ 32 262144#32),
    StableHlo.TRef.unary (.of main_c_79 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S300000, .i32⟩) (broadcastInDim S300000 ![] bcast_S_S300000),
    StableHlo.TRef.ternary (.of main_v205 : StableHlo.TRef sig ⟨S300000, .i1⟩) (.of main_v217 : StableHlo.TRef sig ⟨S300000, .i32⟩) (.of main_call20_v1 : StableHlo.TRef sig ⟨S300000, .i32⟩) (.of main_v218 : StableHlo.TRef sig ⟨S300000, .i32⟩) select ]

set_option maxHeartbeats 40000000 in
/-- 287 operations: from %219 through %351. -/
abbrev tlOps1 : List (HloOp τ sig (Elt F)) :=
  [ StableHlo.nullary main_v219 (iotaInDim S300000 32 0),
    StableHlo.nullary main_c_80 (constantI S_ 32 300000#32),
    StableHlo.unary main_c_80 main_v220 (broadcastInDim S262145 ![] bcast_S_S262145 : (⟨S_, .i32⟩ : BufTy).Contents (Elt F) → (⟨S262145, .i32⟩ : BufTy).Contents (Elt F)),
    StableHlo.nullary main_c_81 (constantI S_ 32 0#32),
    StableHlo.unary main_c_81 main_v221 (broadcastInDim S300000 ![] bcast_S_S300000 : (⟨S_, .i32⟩ : BufTy).Contents (Elt F) → (⟨S300000, .i32⟩ : BufTy).Contents (Elt F)),
    StableHlo.binary main_v218 main_v221 main_v222 (cmpi .slt : (⟨S300000, .i32⟩ : BufTy).Contents (Elt F) → (⟨S300000, .i32⟩ : BufTy).Contents (Elt F) → (⟨S300000, .i1⟩ : BufTy).Contents (Elt F)),
    StableHlo.nullary main_c_82 (constantI S_ 32 262145#32),
    StableHlo.unary main_c_82 main_v223 (broadcastInDim S300000 ![] bcast_S_S300000 : (⟨S_, .i32⟩ : BufTy).Contents (Elt F) → (⟨S300000, .i32⟩ : BufTy).Contents (Elt F)),
    StableHlo.binary main_v218 main_v223 main_v224 (addi : (⟨S300000, .i32⟩ : BufTy).Contents (Elt F) → (⟨S300000, .i32⟩ : BufTy).Contents (Elt F) → (⟨S300000, .i32⟩ : BufTy).Contents (Elt F)),
    StableHlo.ternary main_v222 main_v224 main_v218 main_v225 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v225 main_v226 (broadcastInDim S300000x1 ![0] bcast_S300000_S300000x1_0 : (⟨S300000, .i32⟩ : BufTy).Contents (Elt F) → (⟨S300000x1, .i32⟩ : BufTy).Contents (Elt F)),
    StableHlo.ternary main_v220 main_v226 main_v219 main_v227 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_83 (constantI S_ 32 0#32),
    StableHlo.unary main_c_83 main_v228 (broadcastInDim S300000 ![] bcast_S_S300000 : (⟨S_, .i32⟩ : BufTy).Contents (Elt F) → (⟨S300000, .i32⟩ : BufTy).Contents (Elt F)),
    StableHlo.binary main_v218 main_v228 main_v229 (cmpi .slt : (⟨S300000, .i32⟩ : BufTy).Contents (Elt F) → (⟨S300000, .i32⟩ : BufTy).Contents (Elt F) → (⟨S300000, .i1⟩ : BufTy).Contents (Elt F)),
    StableHlo.nullary main_c_84 (constantI S_ 32 262145#32),
    StableHlo.unary main_c_84 main_v230 (broadcastInDim S300000 ![] bcast_S_S300000 : (⟨S_, .i32⟩ : BufTy).Contents (Elt F) → (⟨S300000, .i32⟩ : BufTy).Contents (Elt F)),
    StableHlo.binary main_v218 main_v230 main_v231 (addi : (⟨S300000, .i32⟩ : BufTy).Contents (Elt F) → (⟨S300000, .i32⟩ : BufTy).Contents (Elt F) → (⟨S300000, .i32⟩ : BufTy).Contents (Elt F)),
    StableHlo.ternary main_v229 main_v231 main_v218 main_v232 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v232 main_v233 (broadcastInDim S300000x1 ![0] bcast_S300000_S300000x1_0 : (⟨S300000, .i32⟩ : BufTy).Contents (Elt F) → (⟨S300000x1, .i32⟩ : BufTy).Contents (Elt F)),
    StableHlo.binary main_v227 main_v233 main_v234 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v234 main_v219 main_v235 (cmpi .eq : (⟨S300000, .i32⟩ : BufTy).Contents (Elt F) → (⟨S300000, .i32⟩ : BufTy).Contents (Elt F) → (⟨S300000, .i1⟩ : BufTy).Contents (Elt F)),
    StableHlo.binary main_v205 main_v235 main_v236 (andi : (⟨S300000, .i1⟩ : BufTy).Contents (Elt F) → (⟨S300000, .i1⟩ : BufTy).Contents (Elt F) → (⟨S300000, .i1⟩ : BufTy).Contents (Elt F)),
    StableHlo.unary main_v236 main_v237 ((extui 32 · natLt_1_32) : (⟨S300000, .i1⟩ : BufTy).Contents (Elt F) → (⟨S300000, .i32⟩ : BufTy).Contents (Elt F)),
    StableHlo.TRef.nullary (.of main_call21_call0_c : StableHlo.TRef sig ⟨S_, .i32⟩) (constantI S_ 32 0#32),
    StableHlo.TRef.unary (.of main_call21_call0_c : StableHlo.TRef sig ⟨S_, .i32⟩) (.of main_call21_call0_v0 : StableHlo.TRef sig ⟨S_, .i32⟩) (broadcastInDim S_ ![] bcast_S_S_),
    StableHlo.TRef.binary (.of main_v237 : StableHlo.TRef sig ⟨S300000, .i32⟩) (.of main_call21_call0_v0 : StableHlo.TRef sig ⟨S_, .i32⟩) (.of main_v238 : StableHlo.TRef sig ⟨S300000, .i32⟩) (fun x v => Host.reduceWindow IntOp.addi ![300000] ![1] ![299999] ![0] x v reduceWindows_S300000_S300000_w300000s1p299999_0 h_S_),
    StableHlo.nullary main_c_85 (constantI S_ 32 1#32),
    StableHlo.unary main_c_85 main_v239 (broadcastInDim S300000 ![] bcast_S_S300000 : (⟨S_, .i32⟩ : BufTy).Contents (Elt F) → (⟨S300000, .i32⟩ : BufTy).Contents (Elt F)),
    StableHlo.binary main_v238 main_v239 main_v240 (subi : (⟨S300000, .i32⟩ : BufTy).Contents (Elt F) → (⟨S300000, .i32⟩ : BufTy).Contents (Elt F) → (⟨S300000, .i32⟩ : BufTy).Contents (Elt F)),
    StableHlo.nullary main_c_86 (constantI S_ 32 30000#32),
    StableHlo.unary main_c_86 main_v241 (broadcastInDim S262145 ![] bcast_S_S262145 : (⟨S_, .i32⟩ : BufTy).Contents (Elt F) → (⟨S262145, .i32⟩ : BufTy).Contents (Elt F)),
    StableHlo.nullary main_c_87 (constantI S_ 32 262144#32),
    StableHlo.TRef.unary (.of main_c_87 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S300000, .i32⟩) (broadcastInDim S300000 ![] bcast_S_S300000),
    StableHlo.TRef.ternary (.of main_v236 : StableHlo.TRef sig ⟨S300000, .i1⟩) (.of main_v218 : StableHlo.TRef sig ⟨S300000, .i32⟩) (.of main_call22_v1 : StableHlo.TRef sig ⟨S300000, .i32⟩) (.of main_v242 : StableHlo.TRef sig ⟨S300000, .i32⟩) select,
    StableHlo.nullary main_c_88 (constantI S_ 32 30000#32),
    StableHlo.unary main_c_88 main_v243 (broadcastInDim S300000 ![] bcast_S_S300000 : (⟨S_, .i32⟩ : BufTy).Contents (Elt F) → (⟨S300000, .i32⟩ : BufTy).Contents (Elt F)),
    StableHlo.binary main_v240 main_v243 main_v244 (minsi : (⟨S300000, .i32⟩ : BufTy).Contents (Elt F) → (⟨S300000, .i32⟩ : BufTy).Contents (Elt F) → (⟨S300000, .i32⟩ : BufTy).Contents (Elt F)),
    StableHlo.nullary main_c_89 (constantI S_ 32 30000#32),
    StableHlo.TRef.unary (.of main_c_89 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S300000, .i32⟩) (broadcastInDim S300000 ![] bcast_S_S300000),
    StableHlo.TRef.ternary (.of main_v236 : StableHlo.TRef sig ⟨S300000, .i1⟩) (.of main_v244 : StableHlo.TRef sig ⟨S300000, .i32⟩) (.of main_call23_v1 : StableHlo.TRef sig ⟨S300000, .i32⟩) (.of main_v245 : StableHlo.TRef sig ⟨S300000, .i32⟩) select,
    StableHlo.nullary main_c_90 (constantI S_ 32 0#32),
    StableHlo.unary main_c_90 main_v246 (broadcastInDim S300000 ![] bcast_S_S300000 : (⟨S_, .i32⟩ : BufTy).Contents (Elt F) → (⟨S300000, .i32⟩ : BufTy).Contents (Elt F)),
    StableHlo.binary main_v242 main_v246 main_v247 (cmpi .slt : (⟨S300000, .i32⟩ : BufTy).Contents (Elt F) → (⟨S300000, .i32⟩ : BufTy).Contents (Elt F) → (⟨S300000, .i1⟩ : BufTy).Contents (Elt F)),
    StableHlo.nullary main_c_91 (constantI S_ 32 262145#32),
    StableHlo.unary main_c_91 main_v248 (broadcastInDim S300000 ![] bcast_S_S300000 : (⟨S_, .i32⟩ : BufTy).Contents (Elt F) → (⟨S300000, .i32⟩ : BufTy).Contents (Elt F)),
    StableHlo.binary main_v242 main_v248 main_v249 (addi : (⟨S300000, .i32⟩ : BufTy).Contents (Elt F) → (⟨S300000, .i32⟩ : BufTy).Contents (Elt F) → (⟨S300000, .i32⟩ : BufTy).Contents (Elt F)),
    StableHlo.ternary main_v247 main_v249 main_v242 main_v250 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v250 main_v251 (broadcastInDim S300000x1 ![0] bcast_S300000_S300000x1_0 : (⟨S300000, .i32⟩ : BufTy).Contents (Elt F) → (⟨S300000x1, .i32⟩ : BufTy).Contents (Elt F)),
    StableHlo.ternary main_v241 main_v251 main_v245 main_v252 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_92 (constantI S_ 32 0#32),
    StableHlo.unary main_c_92 main_v253 (broadcastInDim S300000 ![] bcast_S_S300000 : (⟨S_, .i32⟩ : BufTy).Contents (Elt F) → (⟨S300000, .i32⟩ : BufTy).Contents (Elt F)),
    StableHlo.binary main_v218 main_v253 main_v254 (cmpi .slt : (⟨S300000, .i32⟩ : BufTy).Contents (Elt F) → (⟨S300000, .i32⟩ : BufTy).Contents (Elt F) → (⟨S300000, .i1⟩ : BufTy).Contents (Elt F)),
    StableHlo.nullary main_c_93 (constantI S_ 32 262145#32),
    StableHlo.unary main_c_93 main_v255 (broadcastInDim S300000 ![] bcast_S_S300000 : (⟨S_, .i32⟩ : BufTy).Contents (Elt F) → (⟨S300000, .i32⟩ : BufTy).Contents (Elt F)),
    StableHlo.binary main_v218 main_v255 main_v256 (addi : (⟨S300000, .i32⟩ : BufTy).Contents (Elt F) → (⟨S300000, .i32⟩ : BufTy).Contents (Elt F) → (⟨S300000, .i32⟩ : BufTy).Contents (Elt F)),
    StableHlo.ternary main_v254 main_v256 main_v218 main_v257 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v257 main_v258 (broadcastInDim S300000x1 ![0] bcast_S300000_S300000x1_0 : (⟨S300000, .i32⟩ : BufTy).Contents (Elt F) → (⟨S300000x1, .i32⟩ : BufTy).Contents (Elt F)),
    StableHlo.binary main_v252 main_v258 main_v259 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_94 (constantI S_ 32 30000#32),
    StableHlo.TRef.unary (.of main_c_94 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S300000, .i32⟩) (broadcastInDim S300000 ![] bcast_S_S300000),
    StableHlo.TRef.ternary (.of main_v205 : StableHlo.TRef sig ⟨S300000, .i1⟩) (.of main_v259 : StableHlo.TRef sig ⟨S300000, .i32⟩) (.of main_call24_v1 : StableHlo.TRef sig ⟨S300000, .i32⟩) (.of main_v260 : StableHlo.TRef sig ⟨S300000, .i32⟩) select,
    StableHlo.TRef.nullary (.of main_call25_v0 : StableHlo.TRef sig ⟨S300000, .i32⟩) (iotaInDim S300000 32 0),
    StableHlo.TRef.binary (.of main_v218 : StableHlo.TRef sig ⟨S300000, .i32⟩) (.of main_call25_v0 : StableHlo.TRef sig ⟨S300000, .i32⟩) (.of main_call25_v1_0 : StableHlo.TRef sig ⟨S300000, .i32⟩) (fun x y => (Host.sort2 S300000 0 comparator_i32_i32_d0 x y).1),
    StableHlo.TRef.binary (.of main_v218 : StableHlo.TRef sig ⟨S300000, .i32⟩) (.of main_call25_v0 : StableHlo.TRef sig ⟨S300000, .i32⟩) (.of main_v261 : StableHlo.TRef sig ⟨S300000, .i32⟩) (fun x y => (Host.sort2 S300000 0 comparator_i32_i32_d0 x y).2),
    StableHlo.nullary main_c_95 (constantI S_ 32 0#32),
    StableHlo.unary main_c_95 main_v262 (broadcastInDim S300000 ![] bcast_S_S300000 : (⟨S_, .i32⟩ : BufTy).Contents (Elt F) → (⟨S300000, .i32⟩ : BufTy).Contents (Elt F)),
    StableHlo.binary main_v261 main_v262 main_v263 (cmpi .slt : (⟨S300000, .i32⟩ : BufTy).Contents (Elt F) → (⟨S300000, .i32⟩ : BufTy).Contents (Elt F) → (⟨S300000, .i1⟩ : BufTy).Contents (Elt F)),
    StableHlo.nullary main_c_96 (constantI S_ 32 300000#32),
    StableHlo.unary main_c_96 main_v264 (broadcastInDim S300000 ![] bcast_S_S300000 : (⟨S_, .i32⟩ : BufTy).Contents (Elt F) → (⟨S300000, .i32⟩ : BufTy).Contents (Elt F)),
    StableHlo.binary main_v261 main_v264 main_v265 (addi : (⟨S300000, .i32⟩ : BufTy).Contents (Elt F) → (⟨S300000, .i32⟩ : BufTy).Contents (Elt F) → (⟨S300000, .i32⟩ : BufTy).Contents (Elt F)),
    StableHlo.ternary main_v263 main_v265 main_v261 main_v266 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v266 main_v267 (broadcastInDim S300000x1 ![0] bcast_S300000_S300000x1_0 : (⟨S300000, .i32⟩ : BufTy).Contents (Elt F) → (⟨S300000x1, .i32⟩ : BufTy).Contents (Elt F)),
    StableHlo.binary main_v218 main_v267 main_v268 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_97 (constantI S_ 1 1#1),
    StableHlo.unary main_c_97 main_v269 (broadcastInDim S1 ![] bcast_S_S1 : (⟨S_, .i1⟩ : BufTy).Contents (Elt F) → (⟨S1, .i1⟩ : BufTy).Contents (Elt F)),
    StableHlo.unary main_v268 main_v270 ((extractStridedSlice S299999 ![1] · slices_S300000_S299999_1) : (⟨S300000, .i32⟩ : BufTy).Contents (Elt F) → (⟨S299999, .i32⟩ : BufTy).Contents (Elt F)),
    StableHlo.unary main_v268 main_v271 ((extractStridedSlice S299999 ![0] · slices_S300000_S299999_0) : (⟨S300000, .i32⟩ : BufTy).Contents (Elt F) → (⟨S299999, .i32⟩ : BufTy).Contents (Elt F)),
    StableHlo.binary main_v270 main_v271 main_v272 (cmpi .ne : (⟨S299999, .i32⟩ : BufTy).Contents (Elt F) → (⟨S299999, .i32⟩ : BufTy).Contents (Elt F) → (⟨S299999, .i1⟩ : BufTy).Contents (Elt F)),
    StableHlo.binary main_v269 main_v272 main_v273 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_98 (constantI S_ 32 0#32),
    StableHlo.TRef.unary (.of main_c_98 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S300000, .i32⟩) (broadcastInDim S300000 ![] bcast_S_S300000),
    StableHlo.TRef.ternary (.of main_v273 : StableHlo.TRef sig ⟨S300000, .i1⟩) (.of main_v219 : StableHlo.TRef sig ⟨S300000, .i32⟩) (.of main_call26_v1 : StableHlo.TRef sig ⟨S300000, .i32⟩) (.of main_v274 : StableHlo.TRef sig ⟨S300000, .i32⟩) select,
    StableHlo.TRef.nullary (.of main_call27_c : StableHlo.TRef sig ⟨S_, .i32⟩) (constantI S_ 32 2147483648#32),
    StableHlo.TRef.unary (.of main_call27_c : StableHlo.TRef sig ⟨S_, .i32⟩) (.of main_call27_v0 : StableHlo.TRef sig ⟨S_, .i32⟩) (broadcastInDim S_ ![] bcast_S_S_),
    StableHlo.TRef.binary (.of main_v274 : StableHlo.TRef sig ⟨S300000, .i32⟩) (.of main_call27_v0 : StableHlo.TRef sig ⟨S_, .i32⟩) (.of main_v275 : StableHlo.TRef sig ⟨S300000, .i32⟩) (fun x v => Host.reduceWindow IntOp.maxsi ![300000] ![1] ![299999] ![0] x v reduceWindows_S300000_S300000_w300000s1p299999_0 h_S_),
    StableHlo.nullary main_c_99 (constantI S_ 32 0#32),
    StableHlo.unary main_c_99 main_v276 (broadcastInDim S300000 ![] bcast_S_S300000 : (⟨S_, .i32⟩ : BufTy).Contents (Elt F) → (⟨S300000, .i32⟩ : BufTy).Contents (Elt F)),
    StableHlo.binary main_v219 main_v275 main_v277 (subi : (⟨S300000, .i32⟩ : BufTy).Contents (Elt F) → (⟨S300000, .i32⟩ : BufTy).Contents (Elt F) → (⟨S300000, .i32⟩ : BufTy).Contents (Elt F)),
    StableHlo.nullary main_c_100 (constantI S_ 32 0#32),
    StableHlo.unary main_c_100 main_v278 (broadcastInDim S300000 ![] bcast_S_S300000 : (⟨S_, .i32⟩ : BufTy).Contents (Elt F) → (⟨S300000, .i32⟩ : BufTy).Contents (Elt F)),
    StableHlo.binary main_v261 main_v278 main_v279 (cmpi .slt : (⟨S300000, .i32⟩ : BufTy).Contents (Elt F) → (⟨S300000, .i32⟩ : BufTy).Contents (Elt F) → (⟨S300000, .i1⟩ : BufTy).Contents (Elt F)),
    StableHlo.nullary main_c_101 (constantI S_ 32 300000#32),
    StableHlo.unary main_c_101 main_v280 (broadcastInDim S300000 ![] bcast_S_S300000 : (⟨S_, .i32⟩ : BufTy).Contents (Elt F) → (⟨S300000, .i32⟩ : BufTy).Contents (Elt F)),
    StableHlo.binary main_v261 main_v280 main_v281 (addi : (⟨S300000, .i32⟩ : BufTy).Contents (Elt F) → (⟨S300000, .i32⟩ : BufTy).Contents (Elt F) → (⟨S300000, .i32⟩ : BufTy).Contents (Elt F)),
    StableHlo.ternary main_v279 main_v281 main_v261 main_v282 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v282 main_v283 (broadcastInDim S300000x1 ![0] bcast_S300000_S300000x1_0 : (⟨S300000, .i32⟩ : BufTy).Contents (Elt F) → (⟨S300000x1, .i32⟩ : BufTy).Contents (Elt F)),
    StableHlo.ternary main_v276 main_v283 main_v277 main_v284 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_102 (constantI S_ 32 30000#32),
    StableHlo.unary main_c_102 main_v285 (broadcastInDim S300000 ![] bcast_S_S300000 : (⟨S_, .i32⟩ : BufTy).Contents (Elt F) → (⟨S300000, .i32⟩ : BufTy).Contents (Elt F)),
    StableHlo.binary main_v260 main_v285 main_v286 (cmpi .slt : (⟨S300000, .i32⟩ : BufTy).Contents (Elt F) → (⟨S300000, .i32⟩ : BufTy).Contents (Elt F) → (⟨S300000, .i1⟩ : BufTy).Contents (Elt F)),
    StableHlo.binary main_v205 main_v286 main_v287 (andi : (⟨S300000, .i1⟩ : BufTy).Contents (Elt F) → (⟨S300000, .i1⟩ : BufTy).Contents (Elt F) → (⟨S300000, .i1⟩ : BufTy).Contents (Elt F)),
    StableHlo.nullary main_c_103 (constantI S_ 32 20#32),
    StableHlo.unary main_c_103 main_v288 (broadcastInDim S300000 ![] bcast_S_S300000 : (⟨S_, .i32⟩ : BufTy).Contents (Elt F) → (⟨S300000, .i32⟩ : BufTy).Contents (Elt F)),
    StableHlo.binary main_v284 main_v288 main_v289 (cmpi .slt : (⟨S300000, .i32⟩ : BufTy).Contents (Elt F) → (⟨S300000, .i32⟩ : BufTy).Contents (Elt F) → (⟨S300000, .i1⟩ : BufTy).Contents (Elt F)),
    StableHlo.binary main_v287 main_v289 main_v290 (andi : (⟨S300000, .i1⟩ : BufTy).Contents (Elt F) → (⟨S300000, .i1⟩ : BufTy).Contents (Elt F) → (⟨S300000, .i1⟩ : BufTy).Contents (Elt F)),
    StableHlo.nullary main_c_104 (constantI S_ 32 30000#32),
    StableHlo.TRef.unary (.of main_c_104 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S300000, .i32⟩) (broadcastInDim S300000 ![] bcast_S_S300000),
    StableHlo.TRef.ternary (.of main_v290 : StableHlo.TRef sig ⟨S300000, .i1⟩) (.of main_v260 : StableHlo.TRef sig ⟨S300000, .i32⟩) (.of main_call28_v1 : StableHlo.TRef sig ⟨S300000, .i32⟩) (.of main_v291 : StableHlo.TRef sig ⟨S300000, .i32⟩) select,
    StableHlo.nullary main_c_105 (constantI S_ 32 0#32),
    StableHlo.TRef.unary (.of main_c_105 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S300000, .i32⟩) (broadcastInDim S300000 ![] bcast_S_S300000),
    StableHlo.TRef.ternary (.of main_v290 : StableHlo.TRef sig ⟨S300000, .i1⟩) (.of main_v284 : StableHlo.TRef sig ⟨S300000, .i32⟩) (.of main_call29_v1 : StableHlo.TRef sig ⟨S300000, .i32⟩) (.of main_v292 : StableHlo.TRef sig ⟨S300000, .i32⟩) select,
    StableHlo.nullary main_cst_106 (constant S_ .f32 0x00000000#32),
    StableHlo.unary main_cst_106 main_v293 (broadcastInDim S30001x20x5 ![] bcast_S_S30001x20x5 : (⟨S_, .f32⟩ : BufTy).Contents (Elt F) → (⟨S30001x20x5, .f32⟩ : BufTy).Contents (Elt F)),
    StableHlo.unary main_v290 main_v294 (broadcastInDim S300000x1 ![0] bcast_S300000_S300000x1_0 : (⟨S300000, .i1⟩ : BufTy).Contents (Elt F) → (⟨S300000x1, .i1⟩ : BufTy).Contents (Elt F)),
    StableHlo.nullary main_cst_107 (constant S_ .f32 0x00000000#32),
    StableHlo.TRef.unary (.of main_cst_107 : StableHlo.TRef sig ⟨S_, .f32⟩) (.of main_call30_v0 : StableHlo.TRef sig ⟨S_, .f32⟩) id,
    StableHlo.TRef.unary (.of main_v294 : StableHlo.TRef sig ⟨S300000x1, .i1⟩) (.of main_call30_v1 : StableHlo.TRef sig ⟨S300000x5, .i1⟩) (broadcastInDim S300000x5 ![0, 1] bcast_S300000x1_S300000x5_0_1),
    StableHlo.TRef.unary (.of main_call30_v0 : StableHlo.TRef sig ⟨S_, .f32⟩) (.of main_call30_v2 : StableHlo.TRef sig ⟨S300000x5, .f32⟩) (broadcastInDim S300000x5 ![] bcast_S_S300000x5),
    StableHlo.TRef.ternary (.of main_call30_v1 : StableHlo.TRef sig ⟨S300000x5, .i1⟩) (.of main_v189 : StableHlo.TRef sig ⟨S300000x5, .f32⟩) (.of main_call30_v2 : StableHlo.TRef sig ⟨S300000x5, .f32⟩) (.of main_v295 : StableHlo.TRef sig ⟨S300000x5, .f32⟩) select,
    StableHlo.nullary main_c_108 (constantI S_ 32 0#32),
    StableHlo.unary main_c_108 main_v296 (broadcastInDim S300000 ![] bcast_S_S300000 : (⟨S_, .i32⟩ : BufTy).Contents (Elt F) → (⟨S300000, .i32⟩ : BufTy).Contents (Elt F)),
    StableHlo.binary main_v291 main_v296 main_v297 (cmpi .slt : (⟨S300000, .i32⟩ : BufTy).Contents (Elt F) → (⟨S300000, .i32⟩ : BufTy).Contents (Elt F) → (⟨S300000, .i1⟩ : BufTy).Contents (Elt F)),
    StableHlo.nullary main_c_109 (constantI S_ 32 30001#32),
    StableHlo.unary main_c_109 main_v298 (broadcastInDim S300000 ![] bcast_S_S300000 : (⟨S_, .i32⟩ : BufTy).Contents (Elt F) → (⟨S300000, .i32⟩ : BufTy).Contents (Elt F)),
    StableHlo.binary main_v291 main_v298 main_v299 (addi : (⟨S300000, .i32⟩ : BufTy).Contents (Elt F) → (⟨S300000, .i32⟩ : BufTy).Contents (Elt F) → (⟨S300000, .i32⟩ : BufTy).Contents (Elt F)),
    StableHlo.ternary main_v297 main_v299 main_v291 main_v300 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_110 (constantI S_ 32 0#32),
    StableHlo.unary main_c_110 main_v301 (broadcastInDim S300000 ![] bcast_S_S300000 : (⟨S_, .i32⟩ : BufTy).Contents (Elt F) → (⟨S300000, .i32⟩ : BufTy).Contents (Elt F)),
    StableHlo.binary main_v292 main_v301 main_v302 (cmpi .slt : (⟨S300000, .i32⟩ : BufTy).Contents (Elt F) → (⟨S300000, .i32⟩ : BufTy).Contents (Elt F) → (⟨S300000, .i1⟩ : BufTy).Contents (Elt F)),
    StableHlo.nullary main_c_111 (constantI S_ 32 20#32),
    StableHlo.unary main_c_111 main_v303 (broadcastInDim S300000 ![] bcast_S_S300000 : (⟨S_, .i32⟩ : BufTy).Contents (Elt F) → (⟨S300000, .i32⟩ : BufTy).Contents (Elt F)),
    StableHlo.binary main_v292 main_v303 main_v304 (addi : (⟨S300000, .i32⟩ : BufTy).Contents (Elt F) → (⟨S300000, .i32⟩ : BufTy).Contents (Elt F) → (⟨S300000, .i32⟩ : BufTy).Contents (Elt F)),
    StableHlo.ternary main_v302 main_v304 main_v292 main_v305 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v300 main_v306 (broadcastInDim S300000x1 ![0] bcast_S300000_S300000x1_0 : (⟨S300000, .i32⟩ : BufTy).Contents (Elt F) → (⟨S300000x1, .i32⟩ : BufTy).Contents (Elt F)),
    StableHlo.unary main_v305 main_v307 (broadcastInDim S300000x1 ![0] bcast_S300000_S300000x1_0 : (⟨S300000, .i32⟩ : BufTy).Contents (Elt F) → (⟨S300000x1, .i32⟩ : BufTy).Contents (Elt F)),
    StableHlo.binary main_v306 main_v307 main_v308 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v293 main_v308 main_v295 main_v309 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v309 main_v310 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v290 main_v311 ((extui 32 · natLt_1_32) : (⟨S300000, .i1⟩ : BufTy).Contents (Elt F) → (⟨S300000, .i32⟩ : BufTy).Contents (Elt F)),
    StableHlo.nullary main_c_112 (constantI S_ 32 0#32),
    StableHlo.unary main_c_112 main_v312 (broadcastInDim S30001 ![] bcast_S_S30001 : (⟨S_, .i32⟩ : BufTy).Contents (Elt F) → (⟨S30001, .i32⟩ : BufTy).Contents (Elt F)),
    StableHlo.unary main_v291 main_v313 (broadcastInDim S300000x1 ![0] bcast_S300000_S300000x1_0 : (⟨S300000, .i32⟩ : BufTy).Contents (Elt F) → (⟨S300000x1, .i32⟩ : BufTy).Contents (Elt F)),
    StableHlo.ternary main_v312 main_v313 main_v311 main_v314 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v314 main_v315 ((extractStridedSlice S30000 ![0] · slices_S30001_S30000_0) : (⟨S30001, .i32⟩ : BufTy).Contents (Elt F) → (⟨S30000, .i32⟩ : BufTy).Contents (Elt F)),
    StableHlo.nullary main_c_113 (constantI S_ 32 4294967295#32),
    StableHlo.unary main_c_113 main_v316 (broadcastInDim S30001 ![] bcast_S_S30001 : (⟨S_, .i32⟩ : BufTy).Contents (Elt F) → (⟨S30001, .i32⟩ : BufTy).Contents (Elt F)),
    StableHlo.nullary main_c_114 (constantI S_ 32 30000#32),
    StableHlo.unary main_c_114 main_v317 (broadcastInDim S300000 ![] bcast_S_S300000 : (⟨S_, .i32⟩ : BufTy).Contents (Elt F) → (⟨S300000, .i32⟩ : BufTy).Contents (Elt F)),
    StableHlo.binary main_v240 main_v317 main_v318 (cmpi .slt : (⟨S300000, .i32⟩ : BufTy).Contents (Elt F) → (⟨S300000, .i32⟩ : BufTy).Contents (Elt F) → (⟨S300000, .i1⟩ : BufTy).Contents (Elt F)),
    StableHlo.binary main_v236 main_v318 main_v319 (andi : (⟨S300000, .i1⟩ : BufTy).Contents (Elt F) → (⟨S300000, .i1⟩ : BufTy).Contents (Elt F) → (⟨S300000, .i1⟩ : BufTy).Contents (Elt F)),
    StableHlo.nullary main_c_115 (constantI S_ 32 30000#32),
    StableHlo.TRef.unary (.of main_c_115 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S300000, .i32⟩) (broadcastInDim S300000 ![] bcast_S_S300000),
    StableHlo.TRef.ternary (.of main_v319 : StableHlo.TRef sig ⟨S300000, .i1⟩) (.of main_v240 : StableHlo.TRef sig ⟨S300000, .i32⟩) (.of main_call31_v1 : StableHlo.TRef sig ⟨S300000, .i32⟩) (.of main_v320 : StableHlo.TRef sig ⟨S300000, .i32⟩) select,
    StableHlo.nullary main_c_116 (constantI S_ 32 30000#32),
    StableHlo.unary main_c_116 main_v321 (broadcastInDim S300000 ![] bcast_S_S300000 : (⟨S_, .i32⟩ : BufTy).Contents (Elt F) → (⟨S300000, .i32⟩ : BufTy).Contents (Elt F)),
    StableHlo.binary main_v240 main_v321 main_v322 (cmpi .slt : (⟨S300000, .i32⟩ : BufTy).Contents (Elt F) → (⟨S300000, .i32⟩ : BufTy).Contents (Elt F) → (⟨S300000, .i1⟩ : BufTy).Contents (Elt F)),
    StableHlo.binary main_v236 main_v322 main_v323 (andi : (⟨S300000, .i1⟩ : BufTy).Contents (Elt F) → (⟨S300000, .i1⟩ : BufTy).Contents (Elt F) → (⟨S300000, .i1⟩ : BufTy).Contents (Elt F)),
    StableHlo.nullary main_c_117 (constantI S_ 32 4294967295#32),
    StableHlo.TRef.unary (.of main_c_117 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S300000, .i32⟩) (broadcastInDim S300000 ![] bcast_S_S300000),
    StableHlo.TRef.ternary (.of main_v323 : StableHlo.TRef sig ⟨S300000, .i1⟩) (.of main_v218 : StableHlo.TRef sig ⟨S300000, .i32⟩) (.of main_call32_v1 : StableHlo.TRef sig ⟨S300000, .i32⟩) (.of main_v324 : StableHlo.TRef sig ⟨S300000, .i32⟩) select,
    StableHlo.nullary main_c_118 (constantI S_ 32 0#32),
    StableHlo.unary main_c_118 main_v325 (broadcastInDim S300000 ![] bcast_S_S300000 : (⟨S_, .i32⟩ : BufTy).Contents (Elt F) → (⟨S300000, .i32⟩ : BufTy).Contents (Elt F)),
    StableHlo.binary main_v320 main_v325 main_v326 (cmpi .slt : (⟨S300000, .i32⟩ : BufTy).Contents (Elt F) → (⟨S300000, .i32⟩ : BufTy).Contents (Elt F) → (⟨S300000, .i1⟩ : BufTy).Contents (Elt F)),
    StableHlo.nullary main_c_119 (constantI S_ 32 30001#32),
    StableHlo.unary main_c_119 main_v327 (broadcastInDim S300000 ![] bcast_S_S300000 : (⟨S_, .i32⟩ : BufTy).Contents (Elt F) → (⟨S300000, .i32⟩ : BufTy).Contents (Elt F)),
    StableHlo.binary main_v320 main_v327 main_v328 (addi : (⟨S300000, .i32⟩ : BufTy).Contents (Elt F) → (⟨S300000, .i32⟩ : BufTy).Contents (Elt F) → (⟨S300000, .i32⟩ : BufTy).Contents (Elt F)),
    StableHlo.ternary main_v326 main_v328 main_v320 main_v329 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v329 main_v330 (broadcastInDim S300000x1 ![0] bcast_S300000_S300000x1_0 : (⟨S300000, .i32⟩ : BufTy).Contents (Elt F) → (⟨S300000x1, .i32⟩ : BufTy).Contents (Elt F)),
    StableHlo.ternary main_v316 main_v330 main_v324 main_v331 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v331 main_v332 ((extractStridedSlice S30000 ![0] · slices_S30001_S30000_0) : (⟨S30001, .i32⟩ : BufTy).Contents (Elt F) → (⟨S30000, .i32⟩ : BufTy).Contents (Elt F)),
    StableHlo.nullary main_c_120 (constantI S_ 32 0#32),
    StableHlo.unary main_c_120 main_v333 (broadcastInDim S30000 ![] bcast_S_S30000 : (⟨S_, .i32⟩ : BufTy).Contents (Elt F) → (⟨S30000, .i32⟩ : BufTy).Contents (Elt F)),
    StableHlo.binary main_v332 main_v333 main_v334 (cmpi .sge : (⟨S30000, .i32⟩ : BufTy).Contents (Elt F) → (⟨S30000, .i32⟩ : BufTy).Contents (Elt F) → (⟨S30000, .i1⟩ : BufTy).Contents (Elt F)),
    StableHlo.nullary main_c_121 (constantI S_ 32 262144#32),
    StableHlo.TRef.unary (.of main_c_121 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S30000, .i32⟩) (broadcastInDim S30000 ![] bcast_S_S30000),
    StableHlo.TRef.binary (.of main_v332 : StableHlo.TRef sig ⟨S30000, .i32⟩) (.of main_call33_v1 : StableHlo.TRef sig ⟨S30000, .i32⟩) (.of main_call33_v2 : StableHlo.TRef sig ⟨S30000, .i32⟩) Host.divsi,
    StableHlo.TRef.unary (.of main_v332 : StableHlo.TRef sig ⟨S30000, .i32⟩) (.of main_call33_v3 : StableHlo.TRef sig ⟨S30000, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S30000, .i32⟩) (broadcastInDim S30000 ![] bcast_S_S30000),
    StableHlo.TRef.binary (.of main_call33_v3 : StableHlo.TRef sig ⟨S30000, .i32⟩) (.of main_call33_v5 : StableHlo.TRef sig ⟨S30000, .i32⟩) (.of main_call33_v6 : StableHlo.TRef sig ⟨S30000, .i1⟩) (cmpi .ne),
    StableHlo.TRef.unary (.of main_call33_v0 : StableHlo.TRef sig ⟨S_, .i32⟩) (.of main_call33_v7 : StableHlo.TRef sig ⟨S30000, .i32⟩) (broadcastInDim S30000 ![] bcast_S_S30000),
    StableHlo.TRef.binary (.of main_v332 : StableHlo.TRef sig ⟨S30000, .i32⟩) (.of main_call33_v7 : StableHlo.TRef sig ⟨S30000, .i32⟩) (.of main_call33_v8 : StableHlo.TRef sig ⟨S30000, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S30000, .i32⟩) (broadcastInDim S30000 ![] bcast_S_S30000),
    StableHlo.TRef.binary (.of main_call33_v8 : StableHlo.TRef sig ⟨S30000, .i32⟩) (.of main_call33_v9 : StableHlo.TRef sig ⟨S30000, .i32⟩) (.of main_call33_v10 : StableHlo.TRef sig ⟨S30000, .i1⟩) (cmpi .ne),
    StableHlo.TRef.binary (.of main_call33_v6 : StableHlo.TRef sig ⟨S30000, .i1⟩) (.of main_call33_v10 : StableHlo.TRef sig ⟨S30000, .i1⟩) (.of main_call33_v11 : StableHlo.TRef sig ⟨S30000, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S30000, .i32⟩) (broadcastInDim S30000 ![] bcast_S_S30000),
    StableHlo.TRef.binary (.of main_call33_v2 : StableHlo.TRef sig ⟨S30000, .i32⟩) (.of main_call33_v12 : StableHlo.TRef sig ⟨S30000, .i32⟩) (.of main_call33_v13 : StableHlo.TRef sig ⟨S30000, .i32⟩) subi,
    StableHlo.TRef.ternary (.of main_call33_v11 : StableHlo.TRef sig ⟨S30000, .i1⟩) (.of main_call33_v13 : StableHlo.TRef sig ⟨S30000, .i32⟩) (.of main_call33_v2 : StableHlo.TRef sig ⟨S30000, .i32⟩) (.of main_v335 : StableHlo.TRef sig ⟨S30000, .i32⟩) select,
    StableHlo.nullary main_c_122 (constantI S_ 32 4294967295#32),
    StableHlo.TRef.unary (.of main_c_122 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S30000, .i32⟩) (broadcastInDim S30000 ![] bcast_S_S30000),
    StableHlo.TRef.ternary (.of main_v334 : StableHlo.TRef sig ⟨S30000, .i1⟩) (.of main_v335 : StableHlo.TRef sig ⟨S30000, .i32⟩) (.of main_call34_v1 : StableHlo.TRef sig ⟨S30000, .i32⟩) (.of main_v336 : StableHlo.TRef sig ⟨S30000, .i32⟩) select,
    StableHlo.nullary main_c_123 (constantI S_ 32 0#32),
    StableHlo.unary main_c_123 main_v337 (broadcastInDim S30000 ![] bcast_S_S30000 : (⟨S_, .i32⟩ : BufTy).Contents (Elt F) → (⟨S30000, .i32⟩ : BufTy).Contents (Elt F)),
    StableHlo.binary main_v332 main_v337 main_v338 (cmpi .sge : (⟨S30000, .i32⟩ : BufTy).Contents (Elt F) → (⟨S30000, .i32⟩ : BufTy).Contents (Elt F) → (⟨S30000, .i1⟩ : BufTy).Contents (Elt F)),
    StableHlo.nullary main_c_124 (constantI S_ 32 512#32),
    StableHlo.TRef.unary (.of main_c_124 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S30000, .i32⟩) (broadcastInDim S30000 ![] bcast_S_S30000),
    StableHlo.TRef.binary (.of main_v332 : StableHlo.TRef sig ⟨S30000, .i32⟩) (.of main_call35_v1 : StableHlo.TRef sig ⟨S30000, .i32⟩) (.of main_call35_v2 : StableHlo.TRef sig ⟨S30000, .i32⟩) Host.divsi,
    StableHlo.TRef.unary (.of main_v332 : StableHlo.TRef sig ⟨S30000, .i32⟩) (.of main_call35_v3 : StableHlo.TRef sig ⟨S30000, .i32⟩) signi,
    StableHlo.TRef.unary (.of main_call35_v0 : StableHlo.TRef sig ⟨S_, .i32⟩) (.of main_call35_v4 : StableHlo.TRef sig ⟨S_, .i32⟩) signi,
    StableHlo.TRef.unary (.of main_call35_v4 : StableHlo.TRef sig ⟨S_, .i32⟩) (.of main_call35_v5 : StableHlo.TRef sig ⟨S30000, .i32⟩) (broadcastInDim S30000 ![] bcast_S_S30000),
    StableHlo.TRef.binary (.of main_call35_v3 : StableHlo.TRef sig ⟨S30000, .i32⟩) (.of main_call35_v5 : StableHlo.TRef sig ⟨S30000, .i32⟩) (.of main_call35_v6 : StableHlo.TRef sig ⟨S30000, .i1⟩) (cmpi .ne),
    StableHlo.TRef.unary (.of main_call35_v0 : StableHlo.TRef sig ⟨S_, .i32⟩) (.of main_call35_v7 : StableHlo.TRef sig ⟨S30000, .i32⟩) (broadcastInDim S30000 ![] bcast_S_S30000),
    StableHlo.TRef.binary (.of main_v332 : StableHlo.TRef sig ⟨S30000, .i32⟩) (.of main_call35_v7 : StableHlo.TRef sig ⟨S30000, .i32⟩) (.of main_call35_v8 : StableHlo.TRef sig ⟨S30000, .i32⟩) Host.remsi,
    StableHlo.TRef.nullary (.of main_call35_c : StableHlo.TRef sig ⟨S_, .i32⟩) (constantI S_ 32 0#32),
    StableHlo.TRef.unary (.of main_call35_c : StableHlo.TRef sig ⟨S_, .i32⟩) (.of main_call35_v9 : StableHlo.TRef sig ⟨S30000, .i32⟩) (broadcastInDim S30000 ![] bcast_S_S30000),
    StableHlo.TRef.binary (.of main_call35_v8 : StableHlo.TRef sig ⟨S30000, .i32⟩) (.of main_call35_v9 : StableHlo.TRef sig ⟨S30000, .i32⟩) (.of main_call35_v10 : StableHlo.TRef sig ⟨S30000, .i1⟩) (cmpi .ne),
    StableHlo.TRef.binary (.of main_call35_v6 : StableHlo.TRef sig ⟨S30000, .i1⟩) (.of main_call35_v10 : StableHlo.TRef sig ⟨S30000, .i1⟩) (.of main_call35_v11 : StableHlo.TRef sig ⟨S30000, .i1⟩) andi,
    StableHlo.TRef.nullary (.of main_call35_c_0 : StableHlo.TRef sig ⟨S_, .i32⟩) (constantI S_ 32 1#32),
    StableHlo.TRef.unary (.of main_call35_c_0 : StableHlo.TRef sig ⟨S_, .i32⟩) (.of main_call35_v12 : StableHlo.TRef sig ⟨S30000, .i32⟩) (broadcastInDim S30000 ![] bcast_S_S30000),
    StableHlo.TRef.binary (.of main_call35_v2 : StableHlo.TRef sig ⟨S30000, .i32⟩) (.of main_call35_v12 : StableHlo.TRef sig ⟨S30000, .i32⟩) (.of main_call35_v13 : StableHlo.TRef sig ⟨S30000, .i32⟩) subi,
    StableHlo.TRef.ternary (.of main_call35_v11 : StableHlo.TRef sig ⟨S30000, .i1⟩) (.of main_call35_v13 : StableHlo.TRef sig ⟨S30000, .i32⟩) (.of main_call35_v2 : StableHlo.TRef sig ⟨S30000, .i32⟩) (.of main_v339 : StableHlo.TRef sig ⟨S30000, .i32⟩) select,
    StableHlo.nullary main_c_125 (constantI S_ 32 512#32),
    StableHlo.TRef.unary (.of main_c_125 : StableHlo.TRef sig ⟨S_, .i32⟩) (.of main_call36_v0 : StableHlo.TRef sig ⟨S_, .i32⟩) id,
    StableHlo.TRef.nullary (.of main_call36_c : StableHlo.TRef sig ⟨S_, .i32⟩) (constantI S_ 32 0#32),
    StableHlo.TRef.binary (.of main_call36_v0 : StableHlo.TRef sig ⟨S_, .i32⟩) (.of main_call36_c : StableHlo.TRef sig ⟨S_, .i32⟩) (.of main_call36_v1 : StableHlo.TRef sig ⟨S_, .i1⟩) (cmpi .eq),
    StableHlo.TRef.nullary (.of main_call36_c_0 : StableHlo.TRef sig ⟨S_, .i32⟩) (constantI S_ 32 1#32),
    StableHlo.TRef.ternary (.of main_call36_v1 : StableHlo.TRef sig ⟨S_, .i1⟩) (.of main_call36_c_0 : StableHlo.TRef sig ⟨S_, .i32⟩) (.of main_call36_v0 : StableHlo.TRef sig ⟨S_, .i32⟩) (.of main_call36_v2 : StableHlo.TRef sig ⟨S_, .i32⟩) select,
    StableHlo.TRef.unary (.of main_call36_v2 : StableHlo.TRef sig ⟨S_, .i32⟩) (.of main_call36_v3 : StableHlo.TRef sig ⟨S30000, .i32⟩) (broadcastInDim S30000 ![] bcast_S_S30000),
    StableHlo.TRef.binary (.of main_v339 : StableHlo.TRef sig ⟨S30000, .i32⟩) (.of main_call36_v3 : StableHlo.TRef sig ⟨S30000, .i32⟩) (.of main_call36_v4 : StableHlo.TRef sig ⟨S30000, .i32⟩) Host.remsi,
    StableHlo.TRef.nullary (.of main_call36_c_1 : StableHlo.TRef sig ⟨S_, .i32⟩) (constantI S_ 32 0#32),
    StableHlo.TRef.unary (.of main_call36_c_1 : StableHlo.TRef sig ⟨S_, .i32⟩) (.of main_call36_v5 : StableHlo.TRef sig ⟨S30000, .i32⟩) (broadcastInDim S30000 ![] bcast_S_S30000),
    StableHlo.TRef.binary (.of main_call36_v4 : StableHlo.TRef sig ⟨S30000, .i32⟩) (.of main_call36_v5 : StableHlo.TRef sig ⟨S30000, .i32⟩) (.of main_call36_v6 : StableHlo.TRef sig ⟨S30000, .i1⟩) (cmpi .ne),
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v7 : StableHlo.TRef sig ⟨S30000, .i32⟩) (broadcastInDim S30000 ![] bcast_S_S30000),
    StableHlo.TRef.binary (.of main_call36_v4 : StableHlo.TRef sig ⟨S30000, .i32⟩) (.of main_call36_v7 : StableHlo.TRef sig ⟨S30000, .i32⟩) (.of main_call36_v8 : StableHlo.TRef sig ⟨S30000, .i1⟩) (cmpi .slt),
    StableHlo.TRef.nullary (.of main_call36_c_3 : StableHlo.TRef sig ⟨S_, .i32⟩) (constantI S_ 32 0#32),
    StableHlo.TRef.binary (.of main_call36_v2 : StableHlo.TRef sig ⟨S_, .i32⟩) (.of main_call36_c_3 : StableHlo.TRef sig ⟨S_, .i32⟩) (.of main_call36_v9 : StableHlo.TRef sig ⟨S_, .i1⟩) (cmpi .slt),
    StableHlo.TRef.unary (.of main_call36_v9 : StableHlo.TRef sig ⟨S_, .i1⟩) (.of main_call36_v10 : StableHlo.TRef sig ⟨S30000, .i1⟩) (broadcastInDim S30000 ![] bcast_S_S30000),
    StableHlo.TRef.binary (.of main_call36_v8 : StableHlo.TRef sig ⟨S30000, .i1⟩) (.of main_call36_v10 : StableHlo.TRef sig ⟨S30000, .i1⟩) (.of main_call36_v11 : StableHlo.TRef sig ⟨S30000, .i1⟩) (cmpi .ne),
    StableHlo.TRef.binary (.of main_call36_v11 : StableHlo.TRef sig ⟨S30000, .i1⟩) (.of main_call36_v6 : StableHlo.TRef sig ⟨S30000, .i1⟩) (.of main_call36_v12 : StableHlo.TRef sig ⟨S30000, .i1⟩) andi,
    StableHlo.TRef.unary (.of main_call36_v2 : StableHlo.TRef sig ⟨S_, .i32⟩) (.of main_call36_v13 : StableHlo.TRef sig ⟨S30000, .i32⟩) (broadcastInDim S30000 ![] bcast_S_S30000),
    StableHlo.TRef.binary (.of main_call36_v4 : StableHlo.TRef sig ⟨S30000, .i32⟩) (.of main_call36_v13 : StableHlo.TRef sig ⟨S30000, .i32⟩) (.of main_call36_v14 : StableHlo.TRef sig ⟨S30000, .i32⟩) addi,
    StableHlo.TRef.ternary (.of main_call36_v12 : StableHlo.TRef sig ⟨S30000, .i1⟩) (.of main_call36_v14 : StableHlo.TRef sig ⟨S30000, .i32⟩) (.of main_call36_v4 : StableHlo.TRef sig ⟨S30000, .i32⟩) (.of main_v340 : StableHlo.TRef sig ⟨S30000, .i32⟩) select,
    StableHlo.nullary main_c_126 (constantI S_ 32 4294967295#32),
    StableHlo.TRef.unary (.of main_c_126 : StableHlo.TRef sig ⟨S_, .i32⟩) (.of main_call37_v0 : StableHlo.TRef sig ⟨S_, .i32⟩) id,
    StableHlo.TRef.unary (.of main_call37_v0 : StableHlo.TRef sig ⟨S_, .i32⟩) (.of main_call37_v1 : StableHlo.TRef sig ⟨S30000, .i32⟩) (broadcastInDim S30000 ![] bcast_S_S30000),
    StableHlo.TRef.ternary (.of main_v338 : StableHlo.TRef sig ⟨S30000, .i1⟩) (.of main_v340 : StableHlo.TRef sig ⟨S30000, .i32⟩) (.of main_call37_v1 : StableHlo.TRef sig ⟨S30000, .i32⟩) (.of main_v341 : StableHlo.TRef sig ⟨S30000, .i32⟩) select,
    StableHlo.nullary main_c_127 (constantI S_ 32 0#32),
    StableHlo.unary main_c_127 main_v342 (broadcastInDim S30000 ![] bcast_S_S30000 : (⟨S_, .i32⟩ : BufTy).Contents (Elt F) → (⟨S30000, .i32⟩ : BufTy).Contents (Elt F)),
    StableHlo.binary main_v332 main_v342 main_v343 (cmpi .sge : (⟨S30000, .i32⟩ : BufTy).Contents (Elt F) → (⟨S30000, .i32⟩ : BufTy).Contents (Elt F) → (⟨S30000, .i1⟩ : BufTy).Contents (Elt F)),
    StableHlo.nullary main_c_128 (constantI S_ 32 512#32),
    StableHlo.TRef.unary (.of main_c_128 : StableHlo.TRef sig ⟨S_, .i32⟩) (.of main_call38_v0 : StableHlo.TRef sig ⟨S_, .i32⟩) id,
    StableHlo.TRef.nullary (.of main_call38_c : StableHlo.TRef sig ⟨S_, .i32⟩) (constantI S_ 32 0#32),
    StableHlo.TRef.binary (.of main_call38_v0 : StableHlo.TRef sig ⟨S_, .i32⟩) (.of main_call38_c : StableHlo.TRef sig ⟨S_, .i32⟩) (.of main_call38_v1 : StableHlo.TRef sig ⟨S_, .i1⟩) (cmpi .eq),
    StableHlo.TRef.nullary (.of main_call38_c_0 : StableHlo.TRef sig ⟨S_, .i32⟩) (constantI S_ 32 1#32),
    StableHlo.TRef.ternary (.of main_call38_v1 : StableHlo.TRef sig ⟨S_, .i1⟩) (.of main_call38_c_0 : StableHlo.TRef sig ⟨S_, .i32⟩) (.of main_call38_v0 : StableHlo.TRef sig ⟨S_, .i32⟩) (.of main_call38_v2 : StableHlo.TRef sig ⟨S_, .i32⟩) select,
    StableHlo.TRef.unary (.of main_call38_v2 : StableHlo.TRef sig ⟨S_, .i32⟩) (.of main_call38_v3 : StableHlo.TRef sig ⟨S30000, .i32⟩) (broadcastInDim S30000 ![] bcast_S_S30000),
    StableHlo.TRef.binary (.of main_v332 : StableHlo.TRef sig ⟨S30000, .i32⟩) (.of main_call38_v3 : StableHlo.TRef sig ⟨S30000, .i32⟩) (.of main_call38_v4 : StableHlo.TRef sig ⟨S30000, .i32⟩) Host.remsi,
    StableHlo.TRef.nullary (.of main_call38_c_1 : StableHlo.TRef sig ⟨S_, .i32⟩) (constantI S_ 32 0#32),
    StableHlo.TRef.unary (.of main_call38_c_1 : StableHlo.TRef sig ⟨S_, .i32⟩) (.of main_call38_v5 : StableHlo.TRef sig ⟨S30000, .i32⟩) (broadcastInDim S30000 ![] bcast_S_S30000),
    StableHlo.TRef.binary (.of main_call38_v4 : StableHlo.TRef sig ⟨S30000, .i32⟩) (.of main_call38_v5 : StableHlo.TRef sig ⟨S30000, .i32⟩) (.of main_call38_v6 : StableHlo.TRef sig ⟨S30000, .i1⟩) (cmpi .ne),
    StableHlo.TRef.nullary (.of main_call38_c_2 : StableHlo.TRef sig ⟨S_, .i32⟩) (constantI S_ 32 0#32),
    StableHlo.TRef.unary (.of main_call38_c_2 : StableHlo.TRef sig ⟨S_, .i32⟩) (.of main_call38_v7 : StableHlo.TRef sig ⟨S30000, .i32⟩) (broadcastInDim S30000 ![] bcast_S_S30000),
    StableHlo.TRef.binary (.of main_call38_v4 : StableHlo.TRef sig ⟨S30000, .i32⟩) (.of main_call38_v7 : StableHlo.TRef sig ⟨S30000, .i32⟩) (.of main_call38_v8 : StableHlo.TRef sig ⟨S30000, .i1⟩) (cmpi .slt),
    StableHlo.TRef.nullary (.of main_call38_c_3 : StableHlo.TRef sig ⟨S_, .i32⟩) (constantI S_ 32 0#32),
    StableHlo.TRef.binary (.of main_call38_v2 : StableHlo.TRef sig ⟨S_, .i32⟩) (.of main_call38_c_3 : StableHlo.TRef sig ⟨S_, .i32⟩) (.of main_call38_v9 : StableHlo.TRef sig ⟨S_, .i1⟩) (cmpi .slt),
    StableHlo.TRef.unary (.of main_call38_v9 : StableHlo.TRef sig ⟨S_, .i1⟩) (.of main_call38_v10 : StableHlo.TRef sig ⟨S30000, .i1⟩) (broadcastInDim S30000 ![] bcast_S_S30000),
    StableHlo.TRef.binary (.of main_call38_v8 : StableHlo.TRef sig ⟨S30000, .i1⟩) (.of main_call38_v10 : StableHlo.TRef sig ⟨S30000, .i1⟩) (.of main_call38_v11 : StableHlo.TRef sig ⟨S30000, .i1⟩) (cmpi .ne),
    StableHlo.TRef.binary (.of main_call38_v11 : StableHlo.TRef sig ⟨S30000, .i1⟩) (.of main_call38_v6 : StableHlo.TRef sig ⟨S30000, .i1⟩) (.of main_call38_v12 : StableHlo.TRef sig ⟨S30000, .i1⟩) andi,
    StableHlo.TRef.unary (.of main_call38_v2 : StableHlo.TRef sig ⟨S_, .i32⟩) (.of main_call38_v13 : StableHlo.TRef sig ⟨S30000, .i32⟩) (broadcastInDim S30000 ![] bcast_S_S30000),
    StableHlo.TRef.binary (.of main_call38_v4 : StableHlo.TRef sig ⟨S30000, .i32⟩) (.of main_call38_v13 : StableHlo.TRef sig ⟨S30000, .i32⟩) (.of main_call38_v14 : StableHlo.TRef sig ⟨S30000, .i32⟩) addi,
    StableHlo.TRef.ternary (.of main_call38_v12 : StableHlo.TRef sig ⟨S30000, .i1⟩) (.of main_call38_v14 : StableHlo.TRef sig ⟨S30000, .i32⟩) (.of main_call38_v4 : StableHlo.TRef sig ⟨S30000, .i32⟩) (.of main_v344 : StableHlo.TRef sig ⟨S30000, .i32⟩) select,
    StableHlo.nullary main_c_129 (constantI S_ 32 4294967295#32),
    StableHlo.TRef.unary (.of main_c_129 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S30000, .i32⟩) (broadcastInDim S30000 ![] bcast_S_S30000),
    StableHlo.TRef.ternary (.of main_v343 : StableHlo.TRef sig ⟨S30000, .i1⟩) (.of main_v344 : StableHlo.TRef sig ⟨S30000, .i32⟩) (.of main_call39_v1 : StableHlo.TRef sig ⟨S30000, .i32⟩) (.of main_v345 : StableHlo.TRef sig ⟨S30000, .i32⟩) select,
    StableHlo.unary main_v336 main_v346 (broadcastInDim S30000x1 ![0] bcast_S30000_S30000x1_0 : (⟨S30000, .i32⟩ : BufTy).Contents (Elt F) → (⟨S30000x1, .i32⟩ : BufTy).Contents (Elt F)),
    StableHlo.unary main_v341 main_v347 (broadcastInDim S30000x1 ![0] bcast_S30000_S30000x1_0 : (⟨S30000, .i32⟩ : BufTy).Contents (Elt F) → (⟨S30000x1, .i32⟩ : BufTy).Contents (Elt F)),
    StableHlo.unary main_v345 main_v348 (broadcastInDim S30000x1 ![0] bcast_S30000_S30000x1_0 : (⟨S30000, .i32⟩ : BufTy).Contents (Elt F) → (⟨S30000x1, .i32⟩ : BufTy).Contents (Elt F)),
    StableHlo.nary ![main_v346, main_v347, main_v348] main_v349 (fun u => concatenate S30000x3 1 [⟨S30000x1, u 0⟩, ⟨S30000x1, u 1⟩, ⟨S30000x1, u 2⟩] concatenates_S30000x1_S30000x1_S30000x1_S30000x3_d1),
    StableHlo.nullary main_c_130 (constantI S_ 32 1#32),
    StableHlo.unary main_c_130 main_v350 (broadcastInDim S30000x1 ![] bcast_S_S30000x1 : (⟨S_, .i32⟩ : BufTy).Contents (Elt F) → (⟨S30000x1, .i32⟩ : BufTy).Contents (Elt F)),
    StableHlo.binary main_v350 main_v349 main_v351 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- 23 operations: from %352 through %365. -/
abbrev ptsOps2 : List (HloOp τ sig (Elt F)) :=
  [ StableHlo.unary main_arg0 main_v352 ((extractStridedSlice S1x300000x5 ![2, 0, 0] · slices_S4x300000x5_S1x300000x5_2_0_0) : (⟨S4x300000x5, .f32⟩ : BufTy).Contents (Elt F) → (⟨S1x300000x5, .f32⟩ : BufTy).Contents (Elt F)),
    StableHlo.reshape main_v352 main_v353 rfl shapeCasts_S1x300000x5_S300000x5,
    StableHlo.nullary main_c_131 (constantI S_ 32 0#32),
    StableHlo.unary main_c_131 main_v354 (broadcastInDim S1 ![] bcast_S_S1 : (⟨S_, .i32⟩ : BufTy).Contents (Elt F) → (⟨S1, .i32⟩ : BufTy).Contents (Elt F)),
    StableHlo.nullary main_c_132 (constantI S_ 32 0#32),
    StableHlo.unary main_c_132 main_v355 (broadcastInDim S1 ![] bcast_S_S1 : (⟨S_, .i32⟩ : BufTy).Contents (Elt F) → (⟨S1, .i32⟩ : BufTy).Contents (Elt F)),
    StableHlo.binary main_v354 main_v355 main_v356 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_133 (constant S_ .f32 0x3F400000#32),
    StableHlo.ternary main_v353 main_v356 main_cst_133 main_v357 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_134 (constantI S_ 32 0#32),
    StableHlo.unary main_c_134 main_v358 (broadcastInDim S1 ![] bcast_S_S1 : (⟨S_, .i32⟩ : BufTy).Contents (Elt F) → (⟨S1, .i32⟩ : BufTy).Contents (Elt F)),
    StableHlo.nullary main_c_135 (constantI S_ 32 1#32),
    StableHlo.unary main_c_135 main_v359 (broadcastInDim S1 ![] bcast_S_S1 : (⟨S_, .i32⟩ : BufTy).Contents (Elt F) → (⟨S1, .i32⟩ : BufTy).Contents (Elt F)),
    StableHlo.binary main_v358 main_v359 main_v360 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_136 (constant S_ .f32 0x3E800000#32),
    StableHlo.ternary main_v357 main_v360 main_cst_136 main_v361 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_137 (constantI S_ 32 0#32),
    StableHlo.unary main_c_137 main_v362 (broadcastInDim S1 ![] bcast_S_S1 : (⟨S_, .i32⟩ : BufTy).Contents (Elt F) → (⟨S1, .i32⟩ : BufTy).Contents (Elt F)),
    StableHlo.nullary main_c_138 (constantI S_ 32 2#32),
    StableHlo.unary main_c_138 main_v363 (broadcastInDim S1 ![] bcast_S_S1 : (⟨S_, .i32⟩ : BufTy).Contents (Elt F) → (⟨S1, .i32⟩ : BufTy).Contents (Elt F)),
    StableHlo.binary main_v362 main_v363 main_v364 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_139 (constant S_ .f32 0x40000000#32),
    StableHlo.ternary main_v361 main_v364 main_cst_139 main_v365 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]

set_option maxHeartbeats 40000000 in
/-- 36 operations: from %366 through %394. -/
abbrev linOps2 : List (HloOp τ sig (Elt F)) :=
  [ StableHlo.unary main_v365 main_v366 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v367 (broadcastInDim S1x3 ![1] bcast_S3_S1x3_1 : (⟨S3, .f32⟩ : BufTy).Contents (Elt F) → (⟨S1x3, .f32⟩ : BufTy).Contents (Elt F)),
    StableHlo.unary main_v367 main_v368 (broadcastInDim S300000x3 ![0, 1] bcast_S1x3_S300000x3_0_1 : (⟨S1x3, .f32⟩ : BufTy).Contents (Elt F) → (⟨S300000x3, .f32⟩ : BufTy).Contents (Elt F)),
    StableHlo.binary main_v366 main_v368 main_v369 (subf : (⟨S300000x3, .f32⟩ : BufTy).Contents (Elt F) → (⟨S300000x3, .f32⟩ : BufTy).Contents (Elt F) → (⟨S300000x3, .f32⟩ : BufTy).Contents (Elt F)),
    StableHlo.unary main_cst_0 main_v370 (broadcastInDim S1x3 ![1] bcast_S3_S1x3_1 : (⟨S3, .f32⟩ : BufTy).Contents (Elt F) → (⟨S1x3, .f32⟩ : BufTy).Contents (Elt F)),
    StableHlo.unary main_v370 main_v371 (broadcastInDim S300000x3 ![0, 1] bcast_S1x3_S300000x3_0_1 : (⟨S1x3, .f32⟩ : BufTy).Contents (Elt F) → (⟨S300000x3, .f32⟩ : BufTy).Contents (Elt F)),
    StableHlo.binary main_v369 main_v371 main_v372 (Host.divf : (⟨S300000x3, .f32⟩ : BufTy).Contents (Elt F) → (⟨S300000x3, .f32⟩ : BufTy).Contents (Elt F) → (⟨S300000x3, .f32⟩ : BufTy).Contents (Elt F)),
    StableHlo.unary main_v372 main_v373 (Host.floor : (⟨S300000x3, .f32⟩ : BufTy).Contents (Elt F) → (⟨S300000x3, .f32⟩ : BufTy).Contents (Elt F)),
    StableHlo.unary main_v373 main_v374 (fptosi 32 : (⟨S300000x3, .f32⟩ : BufTy).Contents (Elt F) → (⟨S300000x3, .i32⟩ : BufTy).Contents (Elt F)),
    StableHlo.nullary main_c_140 (constantI S_ 32 0#32),
    StableHlo.unary main_c_140 main_v375 (broadcastInDim S300000x3 ![] bcast_S_S300000x3 : (⟨S_, .i32⟩ : BufTy).Contents (Elt F) → (⟨S300000x3, .i32⟩ : BufTy).Contents (Elt F)),
    StableHlo.binary main_v374 main_v375 main_v376 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v377 (broadcastInDim S1x3 ![1] bcast_S3_S1x3_1 : (⟨S3, .i32⟩ : BufTy).Contents (Elt F) → (⟨S1x3, .i32⟩ : BufTy).Contents (Elt F)),
    StableHlo.unary main_v377 main_v378 (broadcastInDim S300000x3 ![0, 1] bcast_S1x3_S300000x3_0_1 : (⟨S1x3, .i32⟩ : BufTy).Contents (Elt F) → (⟨S300000x3, .i32⟩ : BufTy).Contents (Elt F)),
    StableHlo.binary main_v374 main_v378 main_v379 (cmpi .slt : (⟨S300000x3, .i32⟩ : BufTy).Contents (Elt F) → (⟨S300000x3, .i32⟩ : BufTy).Contents (Elt F) → (⟨S300000x3, .i1⟩ : BufTy).Contents (Elt F)),
    StableHlo.binary main_v376 main_v379 main_v380 (andi : (⟨S300000x3, .i1⟩ : BufTy).Contents (Elt F) → (⟨S300000x3, .i1⟩ : BufTy).Contents (Elt F) → (⟨S300000x3, .i1⟩ : BufTy).Contents (Elt F)),
    StableHlo.nullary main_c_141 (constantI S_ 1 1#1),
    StableHlo.binary main_v380 main_c_141 main_v381 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v374 main_v382 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v382 main_v383 rfl shapeCasts_S300000x1_S300000,
    StableHlo.nullary main_c_142 (constantI S_ 32 512#32),
    StableHlo.unary main_c_142 main_v384 (broadcastInDim S300000 ![] bcast_S_S300000 : (⟨S_, .i32⟩ : BufTy).Contents (Elt F) → (⟨S300000, .i32⟩ : BufTy).Contents (Elt F)),
    StableHlo.binary main_v383 main_v384 main_v385 (muli : (⟨S300000, .i32⟩ : BufTy).Contents (Elt F) → (⟨S300000, .i32⟩ : BufTy).Contents (Elt F) → (⟨S300000, .i32⟩ : BufTy).Contents (Elt F)),
    StableHlo.unary main_v374 main_v386 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v386 main_v387 rfl shapeCasts_S300000x1_S300000,
    StableHlo.binary main_v385 main_v387 main_v388 (addi : (⟨S300000, .i32⟩ : BufTy).Contents (Elt F) → (⟨S300000, .i32⟩ : BufTy).Contents (Elt F) → (⟨S300000, .i32⟩ : BufTy).Contents (Elt F)),
    StableHlo.nullary main_c_143 (constantI S_ 32 512#32),
    StableHlo.unary main_c_143 main_v389 (broadcastInDim S300000 ![] bcast_S_S300000 : (⟨S_, .i32⟩ : BufTy).Contents (Elt F) → (⟨S300000, .i32⟩ : BufTy).Contents (Elt F)),
    StableHlo.binary main_v388 main_v389 main_v390 (muli : (⟨S300000, .i32⟩ : BufTy).Contents (Elt F) → (⟨S300000, .i32⟩ : BufTy).Contents (Elt F) → (⟨S300000, .i32⟩ : BufTy).Contents (Elt F)),
    StableHlo.unary main_v374 main_v391 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v391 main_v392 rfl shapeCasts_S300000x1_S300000,
    StableHlo.binary main_v390 main_v392 main_v393 (addi : (⟨S300000, .i32⟩ : BufTy).Contents (Elt F) → (⟨S300000, .i32⟩ : BufTy).Contents (Elt F) → (⟨S300000, .i32⟩ : BufTy).Contents (Elt F)),
    StableHlo.nullary main_c_144 (constantI S_ 32 262144#32),
    StableHlo.TRef.unary (.of main_c_144 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S300000, .i32⟩) (broadcastInDim S300000 ![] bcast_S_S300000),
    StableHlo.TRef.ternary (.of main_v381 : StableHlo.TRef sig ⟨S300000, .i1⟩) (.of main_v393 : StableHlo.TRef sig ⟨S300000, .i32⟩) (.of main_call40_v1 : StableHlo.TRef sig ⟨S300000, .i32⟩) (.of main_v394 : StableHlo.TRef sig ⟨S300000, .i32⟩) select ]

set_option maxHeartbeats 40000000 in
/-- 287 operations: from %395 through %527. -/
abbrev tlOps2 : List (HloOp τ sig (Elt F)) :=
  [ StableHlo.nullary main_v395 (iotaInDim S300000 32 0),
    StableHlo.nullary main_c_145 (constantI S_ 32 300000#32),
    StableHlo.unary main_c_145 main_v396 (broadcastInDim S262145 ![] bcast_S_S262145 : (⟨S_, .i32⟩ : BufTy).Contents (Elt F) → (⟨S262145, .i32⟩ : BufTy).Contents (Elt F)),
    StableHlo.nullary main_c_146 (constantI S_ 32 0#32),
    StableHlo.unary main_c_146 main_v397 (broadcastInDim S300000 ![] bcast_S_S300000 : (⟨S_, .i32⟩ : BufTy).Contents (Elt F) → (⟨S300000, .i32⟩ : BufTy).Contents (Elt F)),
    StableHlo.binary main_v394 main_v397 main_v398 (cmpi .slt : (⟨S300000, .i32⟩ : BufTy).Contents (Elt F) → (⟨S300000, .i32⟩ : BufTy).Contents (Elt F) → (⟨S300000, .i1⟩ : BufTy).Contents (Elt F)),
    StableHlo.nullary main_c_147 (constantI S_ 32 262145#32),
    StableHlo.unary main_c_147 main_v399 (broadcastInDim S300000 ![] bcast_S_S300000 : (⟨S_, .i32⟩ : BufTy).Contents (Elt F) → (⟨S300000, .i32⟩ : BufTy).Contents (Elt F)),
    StableHlo.binary main_v394 main_v399 main_v400 (addi : (⟨S300000, .i32⟩ : BufTy).Contents (Elt F) → (⟨S300000, .i32⟩ : BufTy).Contents (Elt F) → (⟨S300000, .i32⟩ : BufTy).Contents (Elt F)),
    StableHlo.ternary main_v398 main_v400 main_v394 main_v401 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v401 main_v402 (broadcastInDim S300000x1 ![0] bcast_S300000_S300000x1_0 : (⟨S300000, .i32⟩ : BufTy).Contents (Elt F) → (⟨S300000x1, .i32⟩ : BufTy).Contents (Elt F)),
    StableHlo.ternary main_v396 main_v402 main_v395 main_v403 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_148 (constantI S_ 32 0#32),
    StableHlo.unary main_c_148 main_v404 (broadcastInDim S300000 ![] bcast_S_S300000 : (⟨S_, .i32⟩ : BufTy).Contents (Elt F) → (⟨S300000, .i32⟩ : BufTy).Contents (Elt F)),
    StableHlo.binary main_v394 main_v404 main_v405 (cmpi .slt : (⟨S300000, .i32⟩ : BufTy).Contents (Elt F) → (⟨S300000, .i32⟩ : BufTy).Contents (Elt F) → (⟨S300000, .i1⟩ : BufTy).Contents (Elt F)),
    StableHlo.nullary main_c_149 (constantI S_ 32 262145#32),
    StableHlo.unary main_c_149 main_v406 (broadcastInDim S300000 ![] bcast_S_S300000 : (⟨S_, .i32⟩ : BufTy).Contents (Elt F) → (⟨S300000, .i32⟩ : BufTy).Contents (Elt F)),
    StableHlo.binary main_v394 main_v406 main_v407 (addi : (⟨S300000, .i32⟩ : BufTy).Contents (Elt F) → (⟨S300000, .i32⟩ : BufTy).Contents (Elt F) → (⟨S300000, .i32⟩ : BufTy).Contents (Elt F)),
    StableHlo.ternary main_v405 main_v407 main_v394 main_v408 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v408 main_v409 (broadcastInDim S300000x1 ![0] bcast_S300000_S300000x1_0 : (⟨S300000, .i32⟩ : BufTy).Contents (Elt F) → (⟨S300000x1, .i32⟩ : BufTy).Contents (Elt F)),
    StableHlo.binary main_v403 main_v409 main_v410 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v410 main_v395 main_v411 (cmpi .eq : (⟨S300000, .i32⟩ : BufTy).Contents (Elt F) → (⟨S300000, .i32⟩ : BufTy).Contents (Elt F) → (⟨S300000, .i1⟩ : BufTy).Contents (Elt F)),
    StableHlo.binary main_v381 main_v411 main_v412 (andi : (⟨S300000, .i1⟩ : BufTy).Contents (Elt F) → (⟨S300000, .i1⟩ : BufTy).Contents (Elt F) → (⟨S300000, .i1⟩ : BufTy).Contents (Elt F)),
    StableHlo.unary main_v412 main_v413 ((extui 32 · natLt_1_32) : (⟨S300000, .i1⟩ : BufTy).Contents (Elt F) → (⟨S300000, .i32⟩ : BufTy).Contents (Elt F)),
    StableHlo.TRef.nullary (.of main_call41_call0_c : StableHlo.TRef sig ⟨S_, .i32⟩) (constantI S_ 32 0#32),
    StableHlo.TRef.unary (.of main_call41_call0_c : StableHlo.TRef sig ⟨S_, .i32⟩) (.of main_call41_call0_v0 : StableHlo.TRef sig ⟨S_, .i32⟩) (broadcastInDim S_ ![] bcast_S_S_),
    StableHlo.TRef.binary (.of main_v413 : StableHlo.TRef sig ⟨S300000, .i32⟩) (.of main_call41_call0_v0 : StableHlo.TRef sig ⟨S_, .i32⟩) (.of main_v414 : StableHlo.TRef sig ⟨S300000, .i32⟩) (fun x v => Host.reduceWindow IntOp.addi ![300000] ![1] ![299999] ![0] x v reduceWindows_S300000_S300000_w300000s1p299999_0 h_S_),
    StableHlo.nullary main_c_150 (constantI S_ 32 1#32),
    StableHlo.unary main_c_150 main_v415 (broadcastInDim S300000 ![] bcast_S_S300000 : (⟨S_, .i32⟩ : BufTy).Contents (Elt F) → (⟨S300000, .i32⟩ : BufTy).Contents (Elt F)),
    StableHlo.binary main_v414 main_v415 main_v416 (subi : (⟨S300000, .i32⟩ : BufTy).Contents (Elt F) → (⟨S300000, .i32⟩ : BufTy).Contents (Elt F) → (⟨S300000, .i32⟩ : BufTy).Contents (Elt F)),
    StableHlo.nullary main_c_151 (constantI S_ 32 30000#32),
    StableHlo.unary main_c_151 main_v417 (broadcastInDim S262145 ![] bcast_S_S262145 : (⟨S_, .i32⟩ : BufTy).Contents (Elt F) → (⟨S262145, .i32⟩ : BufTy).Contents (Elt F)),
    StableHlo.nullary main_c_152 (constantI S_ 32 262144#32),
    StableHlo.TRef.unary (.of main_c_152 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S300000, .i32⟩) (broadcastInDim S300000 ![] bcast_S_S300000),
    StableHlo.TRef.ternary (.of main_v412 : StableHlo.TRef sig ⟨S300000, .i1⟩) (.of main_v394 : StableHlo.TRef sig ⟨S300000, .i32⟩) (.of main_call42_v1 : StableHlo.TRef sig ⟨S300000, .i32⟩) (.of main_v418 : StableHlo.TRef sig ⟨S300000, .i32⟩) select,
    StableHlo.nullary main_c_153 (constantI S_ 32 30000#32),
    StableHlo.unary main_c_153 main_v419 (broadcastInDim S300000 ![] bcast_S_S300000 : (⟨S_, .i32⟩ : BufTy).Contents (Elt F) → (⟨S300000, .i32⟩ : BufTy).Contents (Elt F)),
    StableHlo.binary main_v416 main_v419 main_v420 (minsi : (⟨S300000, .i32⟩ : BufTy).Contents (Elt F) → (⟨S300000, .i32⟩ : BufTy).Contents (Elt F) → (⟨S300000, .i32⟩ : BufTy).Contents (Elt F)),
    StableHlo.nullary main_c_154 (constantI S_ 32 30000#32),
    StableHlo.TRef.unary (.of main_c_154 : StableHlo.TRef sig ⟨S_, .i32⟩) (.of main_call43_v0 : StableHlo.TRef sig ⟨S_, .i32⟩) id,
    StableHlo.TRef.unary (.of main_call43_v0 : StableHlo.TRef sig ⟨S_, .i32⟩) (.of main_call43_v1 : StableHlo.TRef sig ⟨S300000, .i32⟩) (broadcastInDim S300000 ![] bcast_S_S300000),
    StableHlo.TRef.ternary (.of main_v412 : StableHlo.TRef sig ⟨S300000, .i1⟩) (.of main_v420 : StableHlo.TRef sig ⟨S300000, .i32⟩) (.of main_call43_v1 : StableHlo.TRef sig ⟨S300000, .i32⟩) (.of main_v421 : StableHlo.TRef sig ⟨S300000, .i32⟩) select,
    StableHlo.nullary main_c_155 (constantI S_ 32 0#32),
    StableHlo.unary main_c_155 main_v422 (broadcastInDim S300000 ![] bcast_S_S300000 : (⟨S_, .i32⟩ : BufTy).Contents (Elt F) → (⟨S300000, .i32⟩ : BufTy).Contents (Elt F)),
    StableHlo.binary main_v418 main_v422 main_v423 (cmpi .slt : (⟨S300000, .i32⟩ : BufTy).Contents (Elt F) → (⟨S300000, .i32⟩ : BufTy).Contents (Elt F) → (⟨S300000, .i1⟩ : BufTy).Contents (Elt F)),
    StableHlo.nullary main_c_156 (constantI S_ 32 262145#32),
    StableHlo.unary main_c_156 main_v424 (broadcastInDim S300000 ![] bcast_S_S300000 : (⟨S_, .i32⟩ : BufTy).Contents (Elt F) → (⟨S300000, .i32⟩ : BufTy).Contents (Elt F)),
    StableHlo.binary main_v418 main_v424 main_v425 (addi : (⟨S300000, .i32⟩ : BufTy).Contents (Elt F) → (⟨S300000, .i32⟩ : BufTy).Contents (Elt F) → (⟨S300000, .i32⟩ : BufTy).Contents (Elt F)),
    StableHlo.ternary main_v423 main_v425 main_v418 main_v426 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v426 main_v427 (broadcastInDim S300000x1 ![0] bcast_S300000_S300000x1_0 : (⟨S300000, .i32⟩ : BufTy).Contents (Elt F) → (⟨S300000x1, .i32⟩ : BufTy).Contents (Elt F)),
    StableHlo.ternary main_v417 main_v427 main_v421 main_v428 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_157 (constantI S_ 32 0#32),
    StableHlo.unary main_c_157 main_v429 (broadcastInDim S300000 ![] bcast_S_S300000 : (⟨S_, .i32⟩ : BufTy).Contents (Elt F) → (⟨S300000, .i32⟩ : BufTy).Contents (Elt F)),
    StableHlo.binary main_v394 main_v429 main_v430 (cmpi .slt : (⟨S300000, .i32⟩ : BufTy).Contents (Elt F) → (⟨S300000, .i32⟩ : BufTy).Contents (Elt F) → (⟨S300000, .i1⟩ : BufTy).Contents (Elt F)),
    StableHlo.nullary main_c_158 (constantI S_ 32 262145#32),
    StableHlo.unary main_c_158 main_v431 (broadcastInDim S300000 ![] bcast_S_S300000 : (⟨S_, .i32⟩ : BufTy).Contents (Elt F) → (⟨S300000, .i32⟩ : BufTy).Contents (Elt F)),
    StableHlo.binary main_v394 main_v431 main_v432 (addi : (⟨S300000, .i32⟩ : BufTy).Contents (Elt F) → (⟨S300000, .i32⟩ : BufTy).Contents (Elt F) → (⟨S300000, .i32⟩ : BufTy).Contents (Elt F)),
    StableHlo.ternary main_v430 main_v432 main_v394 main_v433 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v433 main_v434 (broadcastInDim S300000x1 ![0] bcast_S300000_S300000x1_0 : (⟨S300000, .i32⟩ : BufTy).Contents (Elt F) → (⟨S300000x1, .i32⟩ : BufTy).Contents (Elt F)),
    StableHlo.binary main_v428 main_v434 main_v435 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_159 (constantI S_ 32 30000#32),
    StableHlo.TRef.unary (.of main_c_159 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S300000, .i32⟩) (broadcastInDim S300000 ![] bcast_S_S300000),
    StableHlo.TRef.ternary (.of main_v381 : StableHlo.TRef sig ⟨S300000, .i1⟩) (.of main_v435 : StableHlo.TRef sig ⟨S300000, .i32⟩) (.of main_call44_v1 : StableHlo.TRef sig ⟨S300000, .i32⟩) (.of main_v436 : StableHlo.TRef sig ⟨S300000, .i32⟩) select,
    StableHlo.TRef.nullary (.of main_call45_v0 : StableHlo.TRef sig ⟨S300000, .i32⟩) (iotaInDim S300000 32 0),
    StableHlo.TRef.binary (.of main_v394 : StableHlo.TRef sig ⟨S300000, .i32⟩) (.of main_call45_v0 : StableHlo.TRef sig ⟨S300000, .i32⟩) (.of main_call45_v1_0 : StableHlo.TRef sig ⟨S300000, .i32⟩) (fun x y => (Host.sort2 S300000 0 comparator_i32_i32_d0 x y).1),
    StableHlo.TRef.binary (.of main_v394 : StableHlo.TRef sig ⟨S300000, .i32⟩) (.of main_call45_v0 : StableHlo.TRef sig ⟨S300000, .i32⟩) (.of main_v437 : StableHlo.TRef sig ⟨S300000, .i32⟩) (fun x y => (Host.sort2 S300000 0 comparator_i32_i32_d0 x y).2),
    StableHlo.nullary main_c_160 (constantI S_ 32 0#32),
    StableHlo.unary main_c_160 main_v438 (broadcastInDim S300000 ![] bcast_S_S300000 : (⟨S_, .i32⟩ : BufTy).Contents (Elt F) → (⟨S300000, .i32⟩ : BufTy).Contents (Elt F)),
    StableHlo.binary main_v437 main_v438 main_v439 (cmpi .slt : (⟨S300000, .i32⟩ : BufTy).Contents (Elt F) → (⟨S300000, .i32⟩ : BufTy).Contents (Elt F) → (⟨S300000, .i1⟩ : BufTy).Contents (Elt F)),
    StableHlo.nullary main_c_161 (constantI S_ 32 300000#32),
    StableHlo.unary main_c_161 main_v440 (broadcastInDim S300000 ![] bcast_S_S300000 : (⟨S_, .i32⟩ : BufTy).Contents (Elt F) → (⟨S300000, .i32⟩ : BufTy).Contents (Elt F)),
    StableHlo.binary main_v437 main_v440 main_v441 (addi : (⟨S300000, .i32⟩ : BufTy).Contents (Elt F) → (⟨S300000, .i32⟩ : BufTy).Contents (Elt F) → (⟨S300000, .i32⟩ : BufTy).Contents (Elt F)),
    StableHlo.ternary main_v439 main_v441 main_v437 main_v442 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v442 main_v443 (broadcastInDim S300000x1 ![0] bcast_S300000_S300000x1_0 : (⟨S300000, .i32⟩ : BufTy).Contents (Elt F) → (⟨S300000x1, .i32⟩ : BufTy).Contents (Elt F)),
    StableHlo.binary main_v394 main_v443 main_v444 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_162 (constantI S_ 1 1#1),
    StableHlo.unary main_c_162 main_v445 (broadcastInDim S1 ![] bcast_S_S1 : (⟨S_, .i1⟩ : BufTy).Contents (Elt F) → (⟨S1, .i1⟩ : BufTy).Contents (Elt F)),
    StableHlo.unary main_v444 main_v446 ((extractStridedSlice S299999 ![1] · slices_S300000_S299999_1) : (⟨S300000, .i32⟩ : BufTy).Contents (Elt F) → (⟨S299999, .i32⟩ : BufTy).Contents (Elt F)),
    StableHlo.unary main_v444 main_v447 ((extractStridedSlice S299999 ![0] · slices_S300000_S299999_0) : (⟨S300000, .i32⟩ : BufTy).Contents (Elt F) → (⟨S299999, .i32⟩ : BufTy).Contents (Elt F)),
    StableHlo.binary main_v446 main_v447 main_v448 (cmpi .ne : (⟨S299999, .i32⟩ : BufTy).Contents (Elt F) → (⟨S299999, .i32⟩ : BufTy).Contents (Elt F) → (⟨S299999, .i1⟩ : BufTy).Contents (Elt F)),
    StableHlo.binary main_v445 main_v448 main_v449 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_163 (constantI S_ 32 0#32),
    StableHlo.TRef.unary (.of main_c_163 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S300000, .i32⟩) (broadcastInDim S300000 ![] bcast_S_S300000),
    StableHlo.TRef.ternary (.of main_v449 : StableHlo.TRef sig ⟨S300000, .i1⟩) (.of main_v395 : StableHlo.TRef sig ⟨S300000, .i32⟩) (.of main_call46_v1 : StableHlo.TRef sig ⟨S300000, .i32⟩) (.of main_v450 : StableHlo.TRef sig ⟨S300000, .i32⟩) select,
    StableHlo.TRef.nullary (.of main_call47_c : StableHlo.TRef sig ⟨S_, .i32⟩) (constantI S_ 32 2147483648#32),
    StableHlo.TRef.unary (.of main_call47_c : StableHlo.TRef sig ⟨S_, .i32⟩) (.of main_call47_v0 : StableHlo.TRef sig ⟨S_, .i32⟩) (broadcastInDim S_ ![] bcast_S_S_),
    StableHlo.TRef.binary (.of main_v450 : StableHlo.TRef sig ⟨S300000, .i32⟩) (.of main_call47_v0 : StableHlo.TRef sig ⟨S_, .i32⟩) (.of main_v451 : StableHlo.TRef sig ⟨S300000, .i32⟩) (fun x v => Host.reduceWindow IntOp.maxsi ![300000] ![1] ![299999] ![0] x v reduceWindows_S300000_S300000_w300000s1p299999_0 h_S_),
    StableHlo.nullary main_c_164 (constantI S_ 32 0#32),
    StableHlo.unary main_c_164 main_v452 (broadcastInDim S300000 ![] bcast_S_S300000 : (⟨S_, .i32⟩ : BufTy).Contents (Elt F) → (⟨S300000, .i32⟩ : BufTy).Contents (Elt F)),
    StableHlo.binary main_v395 main_v451 main_v453 (subi : (⟨S300000, .i32⟩ : BufTy).Contents (Elt F) → (⟨S300000, .i32⟩ : BufTy).Contents (Elt F) → (⟨S300000, .i32⟩ : BufTy).Contents (Elt F)),
    StableHlo.nullary main_c_165 (constantI S_ 32 0#32),
    StableHlo.unary main_c_165 main_v454 (broadcastInDim S300000 ![] bcast_S_S300000 : (⟨S_, .i32⟩ : BufTy).Contents (Elt F) → (⟨S300000, .i32⟩ : BufTy).Contents (Elt F)),
    StableHlo.binary main_v437 main_v454 main_v455 (cmpi .slt : (⟨S300000, .i32⟩ : BufTy).Contents (Elt F) → (⟨S300000, .i32⟩ : BufTy).Contents (Elt F) → (⟨S300000, .i1⟩ : BufTy).Contents (Elt F)),
    StableHlo.nullary main_c_166 (constantI S_ 32 300000#32),
    StableHlo.unary main_c_166 main_v456 (broadcastInDim S300000 ![] bcast_S_S300000 : (⟨S_, .i32⟩ : BufTy).Contents (Elt F) → (⟨S300000, .i32⟩ : BufTy).Contents (Elt F)),
    StableHlo.binary main_v437 main_v456 main_v457 (addi : (⟨S300000, .i32⟩ : BufTy).Contents (Elt F) → (⟨S300000, .i32⟩ : BufTy).Contents (Elt F) → (⟨S300000, .i32⟩ : BufTy).Contents (Elt F)),
    StableHlo.ternary main_v455 main_v457 main_v437 main_v458 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v458 main_v459 (broadcastInDim S300000x1 ![0] bcast_S300000_S300000x1_0 : (⟨S300000, .i32⟩ : BufTy).Contents (Elt F) → (⟨S300000x1, .i32⟩ : BufTy).Contents (Elt F)),
    StableHlo.ternary main_v452 main_v459 main_v453 main_v460 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_167 (constantI S_ 32 30000#32),
    StableHlo.unary main_c_167 main_v461 (broadcastInDim S300000 ![] bcast_S_S300000 : (⟨S_, .i32⟩ : BufTy).Contents (Elt F) → (⟨S300000, .i32⟩ : BufTy).Contents (Elt F)),
    StableHlo.binary main_v436 main_v461 main_v462 (cmpi .slt : (⟨S300000, .i32⟩ : BufTy).Contents (Elt F) → (⟨S300000, .i32⟩ : BufTy).Contents (Elt F) → (⟨S300000, .i1⟩ : BufTy).Contents (Elt F)),
    StableHlo.binary main_v381 main_v462 main_v463 (andi : (⟨S300000, .i1⟩ : BufTy).Contents (Elt F) → (⟨S300000, .i1⟩ : BufTy).Contents (Elt F) → (⟨S300000, .i1⟩ : BufTy).Contents (Elt F)),
    StableHlo.nullary main_c_168 (constantI S_ 32 20#32),
    StableHlo.unary main_c_168 main_v464 (broadcastInDim S300000 ![] bcast_S_S300000 : (⟨S_, .i32⟩ : BufTy).Contents (Elt F) → (⟨S300000, .i32⟩ : BufTy).Contents (Elt F)),
    StableHlo.binary main_v460 main_v464 main_v465 (cmpi .slt : (⟨S300000, .i32⟩ : BufTy).Contents (Elt F) → (⟨S300000, .i32⟩ : BufTy).Contents (Elt F) → (⟨S300000, .i1⟩ : BufTy).Contents (Elt F)),
    StableHlo.binary main_v463 main_v465 main_v466 (andi : (⟨S300000, .i1⟩ : BufTy).Contents (Elt F) → (⟨S300000, .i1⟩ : BufTy).Contents (Elt F) → (⟨S300000, .i1⟩ : BufTy).Contents (Elt F)),
    StableHlo.nullary main_c_169 (constantI S_ 32 30000#32),
    StableHlo.TRef.unary (.of main_c_169 : StableHlo.TRef sig ⟨S_, .i32⟩) (.of main_call48_v0 : StableHlo.TRef sig ⟨S_, .i32⟩) id,
    StableHlo.TRef.unary (.of main_call48_v0 : StableHlo.TRef sig ⟨S_, .i32⟩) (.of main_call48_v1 : StableHlo.TRef sig ⟨S300000, .i32⟩) (broadcastInDim S300000 ![] bcast_S_S300000),
    StableHlo.TRef.ternary (.of main_v466 : StableHlo.TRef sig ⟨S300000, .i1⟩) (.of main_v436 : StableHlo.TRef sig ⟨S300000, .i32⟩) (.of main_call48_v1 : StableHlo.TRef sig ⟨S300000, .i32⟩) (.of main_v467 : StableHlo.TRef sig ⟨S300000, .i32⟩) select,
    StableHlo.nullary main_c_170 (constantI S_ 32 0#32),
    StableHlo.TRef.unary (.of main_c_170 : StableHlo.TRef sig ⟨S_, .i32⟩) (.of main_call49_v0 : StableHlo.TRef sig ⟨S_, .i32⟩) id,
    StableHlo.TRef.unary (.of main_call49_v0 : StableHlo.TRef sig ⟨S_, .i32⟩) (.of main_call49_v1 : StableHlo.TRef sig ⟨S300000, .i32⟩) (broadcastInDim S300000 ![] bcast_S_S300000),
    StableHlo.TRef.ternary (.of main_v466 : StableHlo.TRef sig ⟨S300000, .i1⟩) (.of main_v460 : StableHlo.TRef sig ⟨S300000, .i32⟩) (.of main_call49_v1 : StableHlo.TRef sig ⟨S300000, .i32⟩) (.of main_v468 : StableHlo.TRef sig ⟨S300000, .i32⟩) select,
    StableHlo.nullary main_cst_171 (constant S_ .f32 0x00000000#32),
    StableHlo.unary main_cst_171 main_v469 (broadcastInDim S30001x20x5 ![] bcast_S_S30001x20x5 : (⟨S_, .f32⟩ : BufTy).Contents (Elt F) → (⟨S30001x20x5, .f32⟩ : BufTy).Contents (Elt F)),
    StableHlo.unary main_v466 main_v470 (broadcastInDim S300000x1 ![0] bcast_S300000_S300000x1_0 : (⟨S300000, .i1⟩ : BufTy).Contents (Elt F) → (⟨S300000x1, .i1⟩ : BufTy).Contents (Elt F)),
    StableHlo.nullary main_cst_172 (constant S_ .f32 0x00000000#32),
    StableHlo.TRef.unary (.of main_cst_172 : StableHlo.TRef sig ⟨S_, .f32⟩) (.of main_call50_v0 : StableHlo.TRef sig ⟨S_, .f32⟩) id,
    StableHlo.TRef.unary (.of main_v470 : StableHlo.TRef sig ⟨S300000x1, .i1⟩) (.of main_call50_v1 : StableHlo.TRef sig ⟨S300000x5, .i1⟩) (broadcastInDim S300000x5 ![0, 1] bcast_S300000x1_S300000x5_0_1),
    StableHlo.TRef.unary (.of main_call50_v0 : StableHlo.TRef sig ⟨S_, .f32⟩) (.of main_call50_v2 : StableHlo.TRef sig ⟨S300000x5, .f32⟩) (broadcastInDim S300000x5 ![] bcast_S_S300000x5),
    StableHlo.TRef.ternary (.of main_call50_v1 : StableHlo.TRef sig ⟨S300000x5, .i1⟩) (.of main_v365 : StableHlo.TRef sig ⟨S300000x5, .f32⟩) (.of main_call50_v2 : StableHlo.TRef sig ⟨S300000x5, .f32⟩) (.of main_v471 : StableHlo.TRef sig ⟨S300000x5, .f32⟩) select,
    StableHlo.nullary main_c_173 (constantI S_ 32 0#32),
    StableHlo.unary main_c_173 main_v472 (broadcastInDim S300000 ![] bcast_S_S300000 : (⟨S_, .i32⟩ : BufTy).Contents (Elt F) → (⟨S300000, .i32⟩ : BufTy).Contents (Elt F)),
    StableHlo.binary main_v467 main_v472 main_v473 (cmpi .slt : (⟨S300000, .i32⟩ : BufTy).Contents (Elt F) → (⟨S300000, .i32⟩ : BufTy).Contents (Elt F) → (⟨S300000, .i1⟩ : BufTy).Contents (Elt F)),
    StableHlo.nullary main_c_174 (constantI S_ 32 30001#32),
    StableHlo.unary main_c_174 main_v474 (broadcastInDim S300000 ![] bcast_S_S300000 : (⟨S_, .i32⟩ : BufTy).Contents (Elt F) → (⟨S300000, .i32⟩ : BufTy).Contents (Elt F)),
    StableHlo.binary main_v467 main_v474 main_v475 (addi : (⟨S300000, .i32⟩ : BufTy).Contents (Elt F) → (⟨S300000, .i32⟩ : BufTy).Contents (Elt F) → (⟨S300000, .i32⟩ : BufTy).Contents (Elt F)),
    StableHlo.ternary main_v473 main_v475 main_v467 main_v476 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_175 (constantI S_ 32 0#32),
    StableHlo.unary main_c_175 main_v477 (broadcastInDim S300000 ![] bcast_S_S300000 : (⟨S_, .i32⟩ : BufTy).Contents (Elt F) → (⟨S300000, .i32⟩ : BufTy).Contents (Elt F)),
    StableHlo.binary main_v468 main_v477 main_v478 (cmpi .slt : (⟨S300000, .i32⟩ : BufTy).Contents (Elt F) → (⟨S300000, .i32⟩ : BufTy).Contents (Elt F) → (⟨S300000, .i1⟩ : BufTy).Contents (Elt F)),
    StableHlo.nullary main_c_176 (constantI S_ 32 20#32),
    StableHlo.unary main_c_176 main_v479 (broadcastInDim S300000 ![] bcast_S_S300000 : (⟨S_, .i32⟩ : BufTy).Contents (Elt F) → (⟨S300000, .i32⟩ : BufTy).Contents (Elt F)),
    StableHlo.binary main_v468 main_v479 main_v480 (addi : (⟨S300000, .i32⟩ : BufTy).Contents (Elt F) → (⟨S300000, .i32⟩ : BufTy).Contents (Elt F) → (⟨S300000, .i32⟩ : BufTy).Contents (Elt F)),
    StableHlo.ternary main_v478 main_v480 main_v468 main_v481 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v476 main_v482 (broadcastInDim S300000x1 ![0] bcast_S300000_S300000x1_0 : (⟨S300000, .i32⟩ : BufTy).Contents (Elt F) → (⟨S300000x1, .i32⟩ : BufTy).Contents (Elt F)),
    StableHlo.unary main_v481 main_v483 (broadcastInDim S300000x1 ![0] bcast_S300000_S300000x1_0 : (⟨S300000, .i32⟩ : BufTy).Contents (Elt F) → (⟨S300000x1, .i32⟩ : BufTy).Contents (Elt F)),
    StableHlo.binary main_v482 main_v483 main_v484 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v469 main_v484 main_v471 main_v485 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v485 main_v486 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v466 main_v487 ((extui 32 · natLt_1_32) : (⟨S300000, .i1⟩ : BufTy).Contents (Elt F) → (⟨S300000, .i32⟩ : BufTy).Contents (Elt F)),
    StableHlo.nullary main_c_177 (constantI S_ 32 0#32),
    StableHlo.unary main_c_177 main_v488 (broadcastInDim S30001 ![] bcast_S_S30001 : (⟨S_, .i32⟩ : BufTy).Contents (Elt F) → (⟨S30001, .i32⟩ : BufTy).Contents (Elt F)),
    StableHlo.unary main_v467 main_v489 (broadcastInDim S300000x1 ![0] bcast_S300000_S300000x1_0 : (⟨S300000, .i32⟩ : BufTy).Contents (Elt F) → (⟨S300000x1, .i32⟩ : BufTy).Contents (Elt F)),
    StableHlo.ternary main_v488 main_v489 main_v487 main_v490 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v490 main_v491 ((extractStridedSlice S30000 ![0] · slices_S30001_S30000_0) : (⟨S30001, .i32⟩ : BufTy).Contents (Elt F) → (⟨S30000, .i32⟩ : BufTy).Contents (Elt F)),
    StableHlo.nullary main_c_178 (constantI S_ 32 4294967295#32),
    StableHlo.unary main_c_178 main_v492 (broadcastInDim S30001 ![] bcast_S_S30001 : (⟨S_, .i32⟩ : BufTy).Contents (Elt F) → (⟨S30001, .i32⟩ : BufTy).Contents (Elt F)),
    StableHlo.nullary main_c_179 (constantI S_ 32 30000#32),
    StableHlo.unary main_c_179 main_v493 (broadcastInDim S300000 ![] bcast_S_S300000 : (⟨S_, .i32⟩ : BufTy).Contents (Elt F) → (⟨S300000, .i32⟩ : BufTy).Contents (Elt F)),
    StableHlo.binary main_v416 main_v493 main_v494 (cmpi .slt : (⟨S300000, .i32⟩ : BufTy).Contents (Elt F) → (⟨S300000, .i32⟩ : BufTy).Contents (Elt F) → (⟨S300000, .i1⟩ : BufTy).Contents (Elt F)),
    StableHlo.binary main_v412 main_v494 main_v495 (andi : (⟨S300000, .i1⟩ : BufTy).Contents (Elt F) → (⟨S300000, .i1⟩ : BufTy).Contents (Elt F) → (⟨S300000, .i1⟩ : BufTy).Contents (Elt F)),
    StableHlo.nullary main_c_180 (constantI S_ 32 30000#32),
    StableHlo.TRef.unary (.of main_c_180 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S300000, .i32⟩) (broadcastInDim S300000 ![] bcast_S_S300000),
    StableHlo.TRef.ternary (.of main_v495 : StableHlo.TRef sig ⟨S300000, .i1⟩) (.of main_v416 : StableHlo.TRef sig ⟨S300000, .i32⟩) (.of main_call51_v1 : StableHlo.TRef sig ⟨S300000, .i32⟩) (.of main_v496 : StableHlo.TRef sig ⟨S300000, .i32⟩) select,
    StableHlo.nullary main_c_181 (constantI S_ 32 30000#32),
    StableHlo.unary main_c_181 main_v497 (broadcastInDim S300000 ![] bcast_S_S300000 : (⟨S_, .i32⟩ : BufTy).Contents (Elt F) → (⟨S300000, .i32⟩ : BufTy).Contents (Elt F)),
    StableHlo.binary main_v416 main_v497 main_v498 (cmpi .slt : (⟨S300000, .i32⟩ : BufTy).Contents (Elt F) → (⟨S300000, .i32⟩ : BufTy).Contents (Elt F) → (⟨S300000, .i1⟩ : BufTy).Contents (Elt F)),
    StableHlo.binary main_v412 main_v498 main_v499 (andi : (⟨S300000, .i1⟩ : BufTy).Contents (Elt F) → (⟨S300000, .i1⟩ : BufTy).Contents (Elt F) → (⟨S300000, .i1⟩ : BufTy).Contents (Elt F)),
    StableHlo.nullary main_c_182 (constantI S_ 32 4294967295#32),
    StableHlo.TRef.unary (.of main_c_182 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S300000, .i32⟩) (broadcastInDim S300000 ![] bcast_S_S300000),
    StableHlo.TRef.ternary (.of main_v499 : StableHlo.TRef sig ⟨S300000, .i1⟩) (.of main_v394 : StableHlo.TRef sig ⟨S300000, .i32⟩) (.of main_call52_v1 : StableHlo.TRef sig ⟨S300000, .i32⟩) (.of main_v500 : StableHlo.TRef sig ⟨S300000, .i32⟩) select,
    StableHlo.nullary main_c_183 (constantI S_ 32 0#32),
    StableHlo.unary main_c_183 main_v501 (broadcastInDim S300000 ![] bcast_S_S300000 : (⟨S_, .i32⟩ : BufTy).Contents (Elt F) → (⟨S300000, .i32⟩ : BufTy).Contents (Elt F)),
    StableHlo.binary main_v496 main_v501 main_v502 (cmpi .slt : (⟨S300000, .i32⟩ : BufTy).Contents (Elt F) → (⟨S300000, .i32⟩ : BufTy).Contents (Elt F) → (⟨S300000, .i1⟩ : BufTy).Contents (Elt F)),
    StableHlo.nullary main_c_184 (constantI S_ 32 30001#32),
    StableHlo.unary main_c_184 main_v503 (broadcastInDim S300000 ![] bcast_S_S300000 : (⟨S_, .i32⟩ : BufTy).Contents (Elt F) → (⟨S300000, .i32⟩ : BufTy).Contents (Elt F)),
    StableHlo.binary main_v496 main_v503 main_v504 (addi : (⟨S300000, .i32⟩ : BufTy).Contents (Elt F) → (⟨S300000, .i32⟩ : BufTy).Contents (Elt F) → (⟨S300000, .i32⟩ : BufTy).Contents (Elt F)),
    StableHlo.ternary main_v502 main_v504 main_v496 main_v505 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v505 main_v506 (broadcastInDim S300000x1 ![0] bcast_S300000_S300000x1_0 : (⟨S300000, .i32⟩ : BufTy).Contents (Elt F) → (⟨S300000x1, .i32⟩ : BufTy).Contents (Elt F)),
    StableHlo.ternary main_v492 main_v506 main_v500 main_v507 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v507 main_v508 ((extractStridedSlice S30000 ![0] · slices_S30001_S30000_0) : (⟨S30001, .i32⟩ : BufTy).Contents (Elt F) → (⟨S30000, .i32⟩ : BufTy).Contents (Elt F)),
    StableHlo.nullary main_c_185 (constantI S_ 32 0#32),
    StableHlo.unary main_c_185 main_v509 (broadcastInDim S30000 ![] bcast_S_S30000 : (⟨S_, .i32⟩ : BufTy).Contents (Elt F) → (⟨S30000, .i32⟩ : BufTy).Contents (Elt F)),
    StableHlo.binary main_v508 main_v509 main_v510 (cmpi .sge : (⟨S30000, .i32⟩ : BufTy).Contents (Elt F) → (⟨S30000, .i32⟩ : BufTy).Contents (Elt F) → (⟨S30000, .i1⟩ : BufTy).Contents (Elt F)),
    StableHlo.nullary main_c_186 (constantI S_ 32 262144#32),
    StableHlo.TRef.unary (.of main_c_186 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S30000, .i32⟩) (broadcastInDim S30000 ![] bcast_S_S30000),
    StableHlo.TRef.binary (.of main_v508 : StableHlo.TRef sig ⟨S30000, .i32⟩) (.of main_call53_v1 : StableHlo.TRef sig ⟨S30000, .i32⟩) (.of main_call53_v2 : StableHlo.TRef sig ⟨S30000, .i32⟩) Host.divsi,
    StableHlo.TRef.unary (.of main_v508 : StableHlo.TRef sig ⟨S30000, .i32⟩) (.of main_call53_v3 : StableHlo.TRef sig ⟨S30000, .i32⟩) signi,
    StableHlo.TRef.unary (.of main_call53_v0 : StableHlo.TRef sig ⟨S_, .i32⟩) (.of main_call53_v4 : StableHlo.TRef sig ⟨S_, .i32⟩) signi,
    StableHlo.TRef.unary (.of main_call53_v4 : StableHlo.TRef sig ⟨S_, .i32⟩) (.of main_call53_v5 : StableHlo.TRef sig ⟨S30000, .i32⟩) (broadcastInDim S30000 ![] bcast_S_S30000),
    StableHlo.TRef.binary (.of main_call53_v3 : StableHlo.TRef sig ⟨S30000, .i32⟩) (.of main_call53_v5 : StableHlo.TRef sig ⟨S30000, .i32⟩) (.of main_call53_v6 : StableHlo.TRef sig ⟨S30000, .i1⟩) (cmpi .ne),
    StableHlo.TRef.unary (.of main_call53_v0 : StableHlo.TRef sig ⟨S_, .i32⟩) (.of main_call53_v7 : StableHlo.TRef sig ⟨S30000, .i32⟩) (broadcastInDim S30000 ![] bcast_S_S30000),
    StableHlo.TRef.binary (.of main_v508 : StableHlo.TRef sig ⟨S30000, .i32⟩) (.of main_call53_v7 : StableHlo.TRef sig ⟨S30000, .i32⟩) (.of main_call53_v8 : StableHlo.TRef sig ⟨S30000, .i32⟩) Host.remsi,
    StableHlo.TRef.nullary (.of main_call53_c : StableHlo.TRef sig ⟨S_, .i32⟩) (constantI S_ 32 0#32),
    StableHlo.TRef.unary (.of main_call53_c : StableHlo.TRef sig ⟨S_, .i32⟩) (.of main_call53_v9 : StableHlo.TRef sig ⟨S30000, .i32⟩) (broadcastInDim S30000 ![] bcast_S_S30000),
    StableHlo.TRef.binary (.of main_call53_v8 : StableHlo.TRef sig ⟨S30000, .i32⟩) (.of main_call53_v9 : StableHlo.TRef sig ⟨S30000, .i32⟩) (.of main_call53_v10 : StableHlo.TRef sig ⟨S30000, .i1⟩) (cmpi .ne),
    StableHlo.TRef.binary (.of main_call53_v6 : StableHlo.TRef sig ⟨S30000, .i1⟩) (.of main_call53_v10 : StableHlo.TRef sig ⟨S30000, .i1⟩) (.of main_call53_v11 : StableHlo.TRef sig ⟨S30000, .i1⟩) andi,
    StableHlo.TRef.nullary (.of main_call53_c_0 : StableHlo.TRef sig ⟨S_, .i32⟩) (constantI S_ 32 1#32),
    StableHlo.TRef.unary (.of main_call53_c_0 : StableHlo.TRef sig ⟨S_, .i32⟩) (.of main_call53_v12 : StableHlo.TRef sig ⟨S30000, .i32⟩) (broadcastInDim S30000 ![] bcast_S_S30000),
    StableHlo.TRef.binary (.of main_call53_v2 : StableHlo.TRef sig ⟨S30000, .i32⟩) (.of main_call53_v12 : StableHlo.TRef sig ⟨S30000, .i32⟩) (.of main_call53_v13 : StableHlo.TRef sig ⟨S30000, .i32⟩) subi,
    StableHlo.TRef.ternary (.of main_call53_v11 : StableHlo.TRef sig ⟨S30000, .i1⟩) (.of main_call53_v13 : StableHlo.TRef sig ⟨S30000, .i32⟩) (.of main_call53_v2 : StableHlo.TRef sig ⟨S30000, .i32⟩) (.of main_v511 : StableHlo.TRef sig ⟨S30000, .i32⟩) select,
    StableHlo.nullary main_c_187 (constantI S_ 32 4294967295#32),
    StableHlo.TRef.unary (.of main_c_187 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S30000, .i32⟩) (broadcastInDim S30000 ![] bcast_S_S30000),
    StableHlo.TRef.ternary (.of main_v510 : StableHlo.TRef sig ⟨S30000, .i1⟩) (.of main_v511 : StableHlo.TRef sig ⟨S30000, .i32⟩) (.of main_call54_v1 : StableHlo.TRef sig ⟨S30000, .i32⟩) (.of main_v512 : StableHlo.TRef sig ⟨S30000, .i32⟩) select,
    StableHlo.nullary main_c_188 (constantI S_ 32 0#32),
    StableHlo.unary main_c_188 main_v513 (broadcastInDim S30000 ![] bcast_S_S30000 : (⟨S_, .i32⟩ : BufTy).Contents (Elt F) → (⟨S30000, .i32⟩ : BufTy).Contents (Elt F)),
    StableHlo.binary main_v508 main_v513 main_v514 (cmpi .sge : (⟨S30000, .i32⟩ : BufTy).Contents (Elt F) → (⟨S30000, .i32⟩ : BufTy).Contents (Elt F) → (⟨S30000, .i1⟩ : BufTy).Contents (Elt F)),
    StableHlo.nullary main_c_189 (constantI S_ 32 512#32),
    StableHlo.TRef.unary (.of main_c_189 : StableHlo.TRef sig ⟨S_, .i32⟩) (.of main_call55_v0 : StableHlo.TRef sig ⟨S_, .i32⟩) id,
    StableHlo.TRef.unary (.of main_call55_v0 : StableHlo.TRef sig ⟨S_, .i32⟩) (.of main_call55_v1 : StableHlo.TRef sig ⟨S30000, .i32⟩) (broadcastInDim S30000 ![] bcast_S_S30000),
    StableHlo.TRef.binary (.of main_v508 : StableHlo.TRef sig ⟨S30000, .i32⟩) (.of main_call55_v1 : StableHlo.TRef sig ⟨S30000, .i32⟩) (.of main_call55_v2 : StableHlo.TRef sig ⟨S30000, .i32⟩) Host.divsi,
    StableHlo.TRef.unary (.of main_v508 : StableHlo.TRef sig ⟨S30000, .i32⟩) (.of main_call55_v3 : StableHlo.TRef sig ⟨S30000, .i32⟩) signi,
    StableHlo.TRef.unary (.of main_call55_v0 : StableHlo.TRef sig ⟨S_, .i32⟩) (.of main_call55_v4 : StableHlo.TRef sig ⟨S_, .i32⟩) signi,
    StableHlo.TRef.unary (.of main_call55_v4 : StableHlo.TRef sig ⟨S_, .i32⟩) (.of main_call55_v5 : StableHlo.TRef sig ⟨S30000, .i32⟩) (broadcastInDim S30000 ![] bcast_S_S30000),
    StableHlo.TRef.binary (.of main_call55_v3 : StableHlo.TRef sig ⟨S30000, .i32⟩) (.of main_call55_v5 : StableHlo.TRef sig ⟨S30000, .i32⟩) (.of main_call55_v6 : StableHlo.TRef sig ⟨S30000, .i1⟩) (cmpi .ne),
    StableHlo.TRef.unary (.of main_call55_v0 : StableHlo.TRef sig ⟨S_, .i32⟩) (.of main_call55_v7 : StableHlo.TRef sig ⟨S30000, .i32⟩) (broadcastInDim S30000 ![] bcast_S_S30000),
    StableHlo.TRef.binary (.of main_v508 : StableHlo.TRef sig ⟨S30000, .i32⟩) (.of main_call55_v7 : StableHlo.TRef sig ⟨S30000, .i32⟩) (.of main_call55_v8 : StableHlo.TRef sig ⟨S30000, .i32⟩) Host.remsi,
    StableHlo.TRef.nullary (.of main_call55_c : StableHlo.TRef sig ⟨S_, .i32⟩) (constantI S_ 32 0#32),
    StableHlo.TRef.unary (.of main_call55_c : StableHlo.TRef sig ⟨S_, .i32⟩) (.of main_call55_v9 : StableHlo.TRef sig ⟨S30000, .i32⟩) (broadcastInDim S30000 ![] bcast_S_S30000),
    StableHlo.TRef.binary (.of main_call55_v8 : StableHlo.TRef sig ⟨S30000, .i32⟩) (.of main_call55_v9 : StableHlo.TRef sig ⟨S30000, .i32⟩) (.of main_call55_v10 : StableHlo.TRef sig ⟨S30000, .i1⟩) (cmpi .ne),
    StableHlo.TRef.binary (.of main_call55_v6 : StableHlo.TRef sig ⟨S30000, .i1⟩) (.of main_call55_v10 : StableHlo.TRef sig ⟨S30000, .i1⟩) (.of main_call55_v11 : StableHlo.TRef sig ⟨S30000, .i1⟩) andi,
    StableHlo.TRef.nullary (.of main_call55_c_0 : StableHlo.TRef sig ⟨S_, .i32⟩) (constantI S_ 32 1#32),
    StableHlo.TRef.unary (.of main_call55_c_0 : StableHlo.TRef sig ⟨S_, .i32⟩) (.of main_call55_v12 : StableHlo.TRef sig ⟨S30000, .i32⟩) (broadcastInDim S30000 ![] bcast_S_S30000),
    StableHlo.TRef.binary (.of main_call55_v2 : StableHlo.TRef sig ⟨S30000, .i32⟩) (.of main_call55_v12 : StableHlo.TRef sig ⟨S30000, .i32⟩) (.of main_call55_v13 : StableHlo.TRef sig ⟨S30000, .i32⟩) subi,
    StableHlo.TRef.ternary (.of main_call55_v11 : StableHlo.TRef sig ⟨S30000, .i1⟩) (.of main_call55_v13 : StableHlo.TRef sig ⟨S30000, .i32⟩) (.of main_call55_v2 : StableHlo.TRef sig ⟨S30000, .i32⟩) (.of main_v515 : StableHlo.TRef sig ⟨S30000, .i32⟩) select,
    StableHlo.nullary main_c_190 (constantI S_ 32 512#32),
    StableHlo.TRef.unary (.of main_c_190 : StableHlo.TRef sig ⟨S_, .i32⟩) (.of main_call56_v0 : StableHlo.TRef sig ⟨S_, .i32⟩) id,
    StableHlo.TRef.nullary (.of main_call56_c : StableHlo.TRef sig ⟨S_, .i32⟩) (constantI S_ 32 0#32),
    StableHlo.TRef.binary (.of main_call56_v0 : StableHlo.TRef sig ⟨S_, .i32⟩) (.of main_call56_c : StableHlo.TRef sig ⟨S_, .i32⟩) (.of main_call56_v1 : StableHlo.TRef sig ⟨S_, .i1⟩) (cmpi .eq),
    StableHlo.TRef.nullary (.of main_call56_c_0 : StableHlo.TRef sig ⟨S_, .i32⟩) (constantI S_ 32 1#32),
    StableHlo.TRef.ternary (.of main_call56_v1 : StableHlo.TRef sig ⟨S_, .i1⟩) (.of main_call56_c_0 : StableHlo.TRef sig ⟨S_, .i32⟩) (.of main_call56_v0 : StableHlo.TRef sig ⟨S_, .i32⟩) (.of main_call56_v2 : StableHlo.TRef sig ⟨S_, .i32⟩) select,
    StableHlo.TRef.unary (.of main_call56_v2 : StableHlo.TRef sig ⟨S_, .i32⟩) (.of main_call56_v3 : StableHlo.TRef sig ⟨S30000, .i32⟩) (broadcastInDim S30000 ![] bcast_S_S30000),
    StableHlo.TRef.binary (.of main_v515 : StableHlo.TRef sig ⟨S30000, .i32⟩) (.of main_call56_v3 : StableHlo.TRef sig ⟨S30000, .i32⟩) (.of main_call56_v4 : StableHlo.TRef sig ⟨S30000, .i32⟩) Host.remsi,
    StableHlo.TRef.nullary (.of main_call56_c_1 : StableHlo.TRef sig ⟨S_, .i32⟩) (constantI S_ 32 0#32),
    StableHlo.TRef.unary (.of main_call56_c_1 : StableHlo.TRef sig ⟨S_, .i32⟩) (.of main_call56_v5 : StableHlo.TRef sig ⟨S30000, .i32⟩) (broadcastInDim S30000 ![] bcast_S_S30000),
    StableHlo.TRef.binary (.of main_call56_v4 : StableHlo.TRef sig ⟨S30000, .i32⟩) (.of main_call56_v5 : StableHlo.TRef sig ⟨S30000, .i32⟩) (.of main_call56_v6 : StableHlo.TRef sig ⟨S30000, .i1⟩) (cmpi .ne),
    StableHlo.TRef.nullary (.of main_call56_c_2 : StableHlo.TRef sig ⟨S_, .i32⟩) (constantI S_ 32 0#32),
    StableHlo.TRef.unary (.of main_call56_c_2 : StableHlo.TRef sig ⟨S_, .i32⟩) (.of main_call56_v7 : StableHlo.TRef sig ⟨S30000, .i32⟩) (broadcastInDim S30000 ![] bcast_S_S30000),
    StableHlo.TRef.binary (.of main_call56_v4 : StableHlo.TRef sig ⟨S30000, .i32⟩) (.of main_call56_v7 : StableHlo.TRef sig ⟨S30000, .i32⟩) (.of main_call56_v8 : StableHlo.TRef sig ⟨S30000, .i1⟩) (cmpi .slt),
    StableHlo.TRef.nullary (.of main_call56_c_3 : StableHlo.TRef sig ⟨S_, .i32⟩) (constantI S_ 32 0#32),
    StableHlo.TRef.binary (.of main_call56_v2 : StableHlo.TRef sig ⟨S_, .i32⟩) (.of main_call56_c_3 : StableHlo.TRef sig ⟨S_, .i32⟩) (.of main_call56_v9 : StableHlo.TRef sig ⟨S_, .i1⟩) (cmpi .slt),
    StableHlo.TRef.unary (.of main_call56_v9 : StableHlo.TRef sig ⟨S_, .i1⟩) (.of main_call56_v10 : StableHlo.TRef sig ⟨S30000, .i1⟩) (broadcastInDim S30000 ![] bcast_S_S30000),
    StableHlo.TRef.binary (.of main_call56_v8 : StableHlo.TRef sig ⟨S30000, .i1⟩) (.of main_call56_v10 : StableHlo.TRef sig ⟨S30000, .i1⟩) (.of main_call56_v11 : StableHlo.TRef sig ⟨S30000, .i1⟩) (cmpi .ne),
    StableHlo.TRef.binary (.of main_call56_v11 : StableHlo.TRef sig ⟨S30000, .i1⟩) (.of main_call56_v6 : StableHlo.TRef sig ⟨S30000, .i1⟩) (.of main_call56_v12 : StableHlo.TRef sig ⟨S30000, .i1⟩) andi,
    StableHlo.TRef.unary (.of main_call56_v2 : StableHlo.TRef sig ⟨S_, .i32⟩) (.of main_call56_v13 : StableHlo.TRef sig ⟨S30000, .i32⟩) (broadcastInDim S30000 ![] bcast_S_S30000),
    StableHlo.TRef.binary (.of main_call56_v4 : StableHlo.TRef sig ⟨S30000, .i32⟩) (.of main_call56_v13 : StableHlo.TRef sig ⟨S30000, .i32⟩) (.of main_call56_v14 : StableHlo.TRef sig ⟨S30000, .i32⟩) addi,
    StableHlo.TRef.ternary (.of main_call56_v12 : StableHlo.TRef sig ⟨S30000, .i1⟩) (.of main_call56_v14 : StableHlo.TRef sig ⟨S30000, .i32⟩) (.of main_call56_v4 : StableHlo.TRef sig ⟨S30000, .i32⟩) (.of main_v516 : StableHlo.TRef sig ⟨S30000, .i32⟩) select,
    StableHlo.nullary main_c_191 (constantI S_ 32 4294967295#32),
    StableHlo.TRef.unary (.of main_c_191 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S30000, .i32⟩) (broadcastInDim S30000 ![] bcast_S_S30000),
    StableHlo.TRef.ternary (.of main_v514 : StableHlo.TRef sig ⟨S30000, .i1⟩) (.of main_v516 : StableHlo.TRef sig ⟨S30000, .i32⟩) (.of main_call57_v1 : StableHlo.TRef sig ⟨S30000, .i32⟩) (.of main_v517 : StableHlo.TRef sig ⟨S30000, .i32⟩) select,
    StableHlo.nullary main_c_192 (constantI S_ 32 0#32),
    StableHlo.unary main_c_192 main_v518 (broadcastInDim S30000 ![] bcast_S_S30000 : (⟨S_, .i32⟩ : BufTy).Contents (Elt F) → (⟨S30000, .i32⟩ : BufTy).Contents (Elt F)),
    StableHlo.binary main_v508 main_v518 main_v519 (cmpi .sge : (⟨S30000, .i32⟩ : BufTy).Contents (Elt F) → (⟨S30000, .i32⟩ : BufTy).Contents (Elt F) → (⟨S30000, .i1⟩ : BufTy).Contents (Elt F)),
    StableHlo.nullary main_c_193 (constantI S_ 32 512#32),
    StableHlo.TRef.unary (.of main_c_193 : StableHlo.TRef sig ⟨S_, .i32⟩) (.of main_call58_v0 : StableHlo.TRef sig ⟨S_, .i32⟩) id,
    StableHlo.TRef.nullary (.of main_call58_c : StableHlo.TRef sig ⟨S_, .i32⟩) (constantI S_ 32 0#32),
    StableHlo.TRef.binary (.of main_call58_v0 : StableHlo.TRef sig ⟨S_, .i32⟩) (.of main_call58_c : StableHlo.TRef sig ⟨S_, .i32⟩) (.of main_call58_v1 : StableHlo.TRef sig ⟨S_, .i1⟩) (cmpi .eq),
    StableHlo.TRef.nullary (.of main_call58_c_0 : StableHlo.TRef sig ⟨S_, .i32⟩) (constantI S_ 32 1#32),
    StableHlo.TRef.ternary (.of main_call58_v1 : StableHlo.TRef sig ⟨S_, .i1⟩) (.of main_call58_c_0 : StableHlo.TRef sig ⟨S_, .i32⟩) (.of main_call58_v0 : StableHlo.TRef sig ⟨S_, .i32⟩) (.of main_call58_v2 : StableHlo.TRef sig ⟨S_, .i32⟩) select,
    StableHlo.TRef.unary (.of main_call58_v2 : StableHlo.TRef sig ⟨S_, .i32⟩) (.of main_call58_v3 : StableHlo.TRef sig ⟨S30000, .i32⟩) (broadcastInDim S30000 ![] bcast_S_S30000),
    StableHlo.TRef.binary (.of main_v508 : StableHlo.TRef sig ⟨S30000, .i32⟩) (.of main_call58_v3 : StableHlo.TRef sig ⟨S30000, .i32⟩) (.of main_call58_v4 : StableHlo.TRef sig ⟨S30000, .i32⟩) Host.remsi,
    StableHlo.TRef.nullary (.of main_call58_c_1 : StableHlo.TRef sig ⟨S_, .i32⟩) (constantI S_ 32 0#32),
    StableHlo.TRef.unary (.of main_call58_c_1 : StableHlo.TRef sig ⟨S_, .i32⟩) (.of main_call58_v5 : StableHlo.TRef sig ⟨S30000, .i32⟩) (broadcastInDim S30000 ![] bcast_S_S30000),
    StableHlo.TRef.binary (.of main_call58_v4 : StableHlo.TRef sig ⟨S30000, .i32⟩) (.of main_call58_v5 : StableHlo.TRef sig ⟨S30000, .i32⟩) (.of main_call58_v6 : StableHlo.TRef sig ⟨S30000, .i1⟩) (cmpi .ne),
    StableHlo.TRef.nullary (.of main_call58_c_2 : StableHlo.TRef sig ⟨S_, .i32⟩) (constantI S_ 32 0#32),
    StableHlo.TRef.unary (.of main_call58_c_2 : StableHlo.TRef sig ⟨S_, .i32⟩) (.of main_call58_v7 : StableHlo.TRef sig ⟨S30000, .i32⟩) (broadcastInDim S30000 ![] bcast_S_S30000),
    StableHlo.TRef.binary (.of main_call58_v4 : StableHlo.TRef sig ⟨S30000, .i32⟩) (.of main_call58_v7 : StableHlo.TRef sig ⟨S30000, .i32⟩) (.of main_call58_v8 : StableHlo.TRef sig ⟨S30000, .i1⟩) (cmpi .slt),
    StableHlo.TRef.nullary (.of main_call58_c_3 : StableHlo.TRef sig ⟨S_, .i32⟩) (constantI S_ 32 0#32),
    StableHlo.TRef.binary (.of main_call58_v2 : StableHlo.TRef sig ⟨S_, .i32⟩) (.of main_call58_c_3 : StableHlo.TRef sig ⟨S_, .i32⟩) (.of main_call58_v9 : StableHlo.TRef sig ⟨S_, .i1⟩) (cmpi .slt),
    StableHlo.TRef.unary (.of main_call58_v9 : StableHlo.TRef sig ⟨S_, .i1⟩) (.of main_call58_v10 : StableHlo.TRef sig ⟨S30000, .i1⟩) (broadcastInDim S30000 ![] bcast_S_S30000),
    StableHlo.TRef.binary (.of main_call58_v8 : StableHlo.TRef sig ⟨S30000, .i1⟩) (.of main_call58_v10 : StableHlo.TRef sig ⟨S30000, .i1⟩) (.of main_call58_v11 : StableHlo.TRef sig ⟨S30000, .i1⟩) (cmpi .ne),
    StableHlo.TRef.binary (.of main_call58_v11 : StableHlo.TRef sig ⟨S30000, .i1⟩) (.of main_call58_v6 : StableHlo.TRef sig ⟨S30000, .i1⟩) (.of main_call58_v12 : StableHlo.TRef sig ⟨S30000, .i1⟩) andi,
    StableHlo.TRef.unary (.of main_call58_v2 : StableHlo.TRef sig ⟨S_, .i32⟩) (.of main_call58_v13 : StableHlo.TRef sig ⟨S30000, .i32⟩) (broadcastInDim S30000 ![] bcast_S_S30000),
    StableHlo.TRef.binary (.of main_call58_v4 : StableHlo.TRef sig ⟨S30000, .i32⟩) (.of main_call58_v13 : StableHlo.TRef sig ⟨S30000, .i32⟩) (.of main_call58_v14 : StableHlo.TRef sig ⟨S30000, .i32⟩) addi,
    StableHlo.TRef.ternary (.of main_call58_v12 : StableHlo.TRef sig ⟨S30000, .i1⟩) (.of main_call58_v14 : StableHlo.TRef sig ⟨S30000, .i32⟩) (.of main_call58_v4 : StableHlo.TRef sig ⟨S30000, .i32⟩) (.of main_v520 : StableHlo.TRef sig ⟨S30000, .i32⟩) select,
    StableHlo.nullary main_c_194 (constantI S_ 32 4294967295#32),
    StableHlo.TRef.unary (.of main_c_194 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S30000, .i32⟩) (broadcastInDim S30000 ![] bcast_S_S30000),
    StableHlo.TRef.ternary (.of main_v519 : StableHlo.TRef sig ⟨S30000, .i1⟩) (.of main_v520 : StableHlo.TRef sig ⟨S30000, .i32⟩) (.of main_call59_v1 : StableHlo.TRef sig ⟨S30000, .i32⟩) (.of main_v521 : StableHlo.TRef sig ⟨S30000, .i32⟩) select,
    StableHlo.unary main_v512 main_v522 (broadcastInDim S30000x1 ![0] bcast_S30000_S30000x1_0 : (⟨S30000, .i32⟩ : BufTy).Contents (Elt F) → (⟨S30000x1, .i32⟩ : BufTy).Contents (Elt F)),
    StableHlo.unary main_v517 main_v523 (broadcastInDim S30000x1 ![0] bcast_S30000_S30000x1_0 : (⟨S30000, .i32⟩ : BufTy).Contents (Elt F) → (⟨S30000x1, .i32⟩ : BufTy).Contents (Elt F)),
    StableHlo.unary main_v521 main_v524 (broadcastInDim S30000x1 ![0] bcast_S30000_S30000x1_0 : (⟨S30000, .i32⟩ : BufTy).Contents (Elt F) → (⟨S30000x1, .i32⟩ : BufTy).Contents (Elt F)),
    StableHlo.nary ![main_v522, main_v523, main_v524] main_v525 (fun u => concatenate S30000x3 1 [⟨S30000x1, u 0⟩, ⟨S30000x1, u 1⟩, ⟨S30000x1, u 2⟩] concatenates_S30000x1_S30000x1_S30000x1_S30000x3_d1),
    StableHlo.nullary main_c_195 (constantI S_ 32 2#32),
    StableHlo.unary main_c_195 main_v526 (broadcastInDim S30000x1 ![] bcast_S_S30000x1 : (⟨S_, .i32⟩ : BufTy).Contents (Elt F) → (⟨S30000x1, .i32⟩ : BufTy).Contents (Elt F)),
    StableHlo.binary main_v526 main_v525 main_v527 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- 23 operations: from %528 through %541. -/
abbrev ptsOps3 : List (HloOp τ sig (Elt F)) :=
  [ StableHlo.unary main_arg0 main_v528 ((extractStridedSlice S1x300000x5 ![3, 0, 0] · slices_S4x300000x5_S1x300000x5_3_0_0) : (⟨S4x300000x5, .f32⟩ : BufTy).Contents (Elt F) → (⟨S1x300000x5, .f32⟩ : BufTy).Contents (Elt F)),
    StableHlo.reshape main_v528 main_v529 rfl shapeCasts_S1x300000x5_S300000x5,
    StableHlo.nullary main_c_196 (constantI S_ 32 0#32),
    StableHlo.unary main_c_196 main_v530 (broadcastInDim S1 ![] bcast_S_S1 : (⟨S_, .i32⟩ : BufTy).Contents (Elt F) → (⟨S1, .i32⟩ : BufTy).Contents (Elt F)),
    StableHlo.nullary main_c_197 (constantI S_ 32 0#32),
    StableHlo.unary main_c_197 main_v531 (broadcastInDim S1 ![] bcast_S_S1 : (⟨S_, .i32⟩ : BufTy).Contents (Elt F) → (⟨S1, .i32⟩ : BufTy).Contents (Elt F)),
    StableHlo.binary main_v530 main_v531 main_v532 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_198 (constant S_ .f32 0x3F400000#32),
    StableHlo.ternary main_v529 main_v532 main_cst_198 main_v533 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_199 (constantI S_ 32 0#32),
    StableHlo.unary main_c_199 main_v534 (broadcastInDim S1 ![] bcast_S_S1 : (⟨S_, .i32⟩ : BufTy).Contents (Elt F) → (⟨S1, .i32⟩ : BufTy).Contents (Elt F)),
    StableHlo.nullary main_c_200 (constantI S_ 32 1#32),
    StableHlo.unary main_c_200 main_v535 (broadcastInDim S1 ![] bcast_S_S1 : (⟨S_, .i32⟩ : BufTy).Contents (Elt F) → (⟨S1, .i32⟩ : BufTy).Contents (Elt F)),
    StableHlo.binary main_v534 main_v535 main_v536 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_201 (constant S_ .f32 0x3E800000#32),
    StableHlo.ternary main_v533 main_v536 main_cst_201 main_v537 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_202 (constantI S_ 32 0#32),
    StableHlo.unary main_c_202 main_v538 (broadcastInDim S1 ![] bcast_S_S1 : (⟨S_, .i32⟩ : BufTy).Contents (Elt F) → (⟨S1, .i32⟩ : BufTy).Contents (Elt F)),
    StableHlo.nullary main_c_203 (constantI S_ 32 2#32),
    StableHlo.unary main_c_203 main_v539 (broadcastInDim S1 ![] bcast_S_S1 : (⟨S_, .i32⟩ : BufTy).Contents (Elt F) → (⟨S1, .i32⟩ : BufTy).Contents (Elt F)),
    StableHlo.binary main_v538 main_v539 main_v540 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_204 (constant S_ .f32 0x40000000#32),
    StableHlo.ternary main_v537 main_v540 main_cst_204 main_v541 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]

set_option maxHeartbeats 40000000 in
/-- 36 operations: from %542 through %570. -/
abbrev linOps3 : List (HloOp τ sig (Elt F)) :=
  [ StableHlo.unary main_v541 main_v542 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v543 (broadcastInDim S1x3 ![1] bcast_S3_S1x3_1 : (⟨S3, .f32⟩ : BufTy).Contents (Elt F) → (⟨S1x3, .f32⟩ : BufTy).Contents (Elt F)),
    StableHlo.unary main_v543 main_v544 (broadcastInDim S300000x3 ![0, 1] bcast_S1x3_S300000x3_0_1 : (⟨S1x3, .f32⟩ : BufTy).Contents (Elt F) → (⟨S300000x3, .f32⟩ : BufTy).Contents (Elt F)),
    StableHlo.binary main_v542 main_v544 main_v545 (subf : (⟨S300000x3, .f32⟩ : BufTy).Contents (Elt F) → (⟨S300000x3, .f32⟩ : BufTy).Contents (Elt F) → (⟨S300000x3, .f32⟩ : BufTy).Contents (Elt F)),
    StableHlo.unary main_cst_0 main_v546 (broadcastInDim S1x3 ![1] bcast_S3_S1x3_1 : (⟨S3, .f32⟩ : BufTy).Contents (Elt F) → (⟨S1x3, .f32⟩ : BufTy).Contents (Elt F)),
    StableHlo.unary main_v546 main_v547 (broadcastInDim S300000x3 ![0, 1] bcast_S1x3_S300000x3_0_1 : (⟨S1x3, .f32⟩ : BufTy).Contents (Elt F) → (⟨S300000x3, .f32⟩ : BufTy).Contents (Elt F)),
    StableHlo.binary main_v545 main_v547 main_v548 (Host.divf : (⟨S300000x3, .f32⟩ : BufTy).Contents (Elt F) → (⟨S300000x3, .f32⟩ : BufTy).Contents (Elt F) → (⟨S300000x3, .f32⟩ : BufTy).Contents (Elt F)),
    StableHlo.unary main_v548 main_v549 (Host.floor : (⟨S300000x3, .f32⟩ : BufTy).Contents (Elt F) → (⟨S300000x3, .f32⟩ : BufTy).Contents (Elt F)),
    StableHlo.unary main_v549 main_v550 (fptosi 32 : (⟨S300000x3, .f32⟩ : BufTy).Contents (Elt F) → (⟨S300000x3, .i32⟩ : BufTy).Contents (Elt F)),
    StableHlo.nullary main_c_205 (constantI S_ 32 0#32),
    StableHlo.unary main_c_205 main_v551 (broadcastInDim S300000x3 ![] bcast_S_S300000x3 : (⟨S_, .i32⟩ : BufTy).Contents (Elt F) → (⟨S300000x3, .i32⟩ : BufTy).Contents (Elt F)),
    StableHlo.binary main_v550 main_v551 main_v552 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v553 (broadcastInDim S1x3 ![1] bcast_S3_S1x3_1 : (⟨S3, .i32⟩ : BufTy).Contents (Elt F) → (⟨S1x3, .i32⟩ : BufTy).Contents (Elt F)),
    StableHlo.unary main_v553 main_v554 (broadcastInDim S300000x3 ![0, 1] bcast_S1x3_S300000x3_0_1 : (⟨S1x3, .i32⟩ : BufTy).Contents (Elt F) → (⟨S300000x3, .i32⟩ : BufTy).Contents (Elt F)),
    StableHlo.binary main_v550 main_v554 main_v555 (cmpi .slt : (⟨S300000x3, .i32⟩ : BufTy).Contents (Elt F) → (⟨S300000x3, .i32⟩ : BufTy).Contents (Elt F) → (⟨S300000x3, .i1⟩ : BufTy).Contents (Elt F)),
    StableHlo.binary main_v552 main_v555 main_v556 (andi : (⟨S300000x3, .i1⟩ : BufTy).Contents (Elt F) → (⟨S300000x3, .i1⟩ : BufTy).Contents (Elt F) → (⟨S300000x3, .i1⟩ : BufTy).Contents (Elt F)),
    StableHlo.nullary main_c_206 (constantI S_ 1 1#1),
    StableHlo.binary main_v556 main_c_206 main_v557 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v550 main_v558 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v558 main_v559 rfl shapeCasts_S300000x1_S300000,
    StableHlo.nullary main_c_207 (constantI S_ 32 512#32),
    StableHlo.unary main_c_207 main_v560 (broadcastInDim S300000 ![] bcast_S_S300000 : (⟨S_, .i32⟩ : BufTy).Contents (Elt F) → (⟨S300000, .i32⟩ : BufTy).Contents (Elt F)),
    StableHlo.binary main_v559 main_v560 main_v561 (muli : (⟨S300000, .i32⟩ : BufTy).Contents (Elt F) → (⟨S300000, .i32⟩ : BufTy).Contents (Elt F) → (⟨S300000, .i32⟩ : BufTy).Contents (Elt F)),
    StableHlo.unary main_v550 main_v562 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v562 main_v563 rfl shapeCasts_S300000x1_S300000,
    StableHlo.binary main_v561 main_v563 main_v564 (addi : (⟨S300000, .i32⟩ : BufTy).Contents (Elt F) → (⟨S300000, .i32⟩ : BufTy).Contents (Elt F) → (⟨S300000, .i32⟩ : BufTy).Contents (Elt F)),
    StableHlo.nullary main_c_208 (constantI S_ 32 512#32),
    StableHlo.unary main_c_208 main_v565 (broadcastInDim S300000 ![] bcast_S_S300000 : (⟨S_, .i32⟩ : BufTy).Contents (Elt F) → (⟨S300000, .i32⟩ : BufTy).Contents (Elt F)),
    StableHlo.binary main_v564 main_v565 main_v566 (muli : (⟨S300000, .i32⟩ : BufTy).Contents (Elt F) → (⟨S300000, .i32⟩ : BufTy).Contents (Elt F) → (⟨S300000, .i32⟩ : BufTy).Contents (Elt F)),
    StableHlo.unary main_v550 main_v567 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v567 main_v568 rfl shapeCasts_S300000x1_S300000,
    StableHlo.binary main_v566 main_v568 main_v569 (addi : (⟨S300000, .i32⟩ : BufTy).Contents (Elt F) → (⟨S300000, .i32⟩ : BufTy).Contents (Elt F) → (⟨S300000, .i32⟩ : BufTy).Contents (Elt F)),
    StableHlo.nullary main_c_209 (constantI S_ 32 262144#32),
    StableHlo.TRef.unary (.of main_c_209 : StableHlo.TRef sig ⟨S_, .i32⟩) (.of main_call60_v0 : StableHlo.TRef sig ⟨S_, .i32⟩) id,
    StableHlo.TRef.unary (.of main_call60_v0 : StableHlo.TRef sig ⟨S_, .i32⟩) (.of main_call60_v1 : StableHlo.TRef sig ⟨S300000, .i32⟩) (broadcastInDim S300000 ![] bcast_S_S300000),
    StableHlo.TRef.ternary (.of main_v557 : StableHlo.TRef sig ⟨S300000, .i1⟩) (.of main_v569 : StableHlo.TRef sig ⟨S300000, .i32⟩) (.of main_call60_v1 : StableHlo.TRef sig ⟨S300000, .i32⟩) (.of main_v570 : StableHlo.TRef sig ⟨S300000, .i32⟩) select ]

set_option maxHeartbeats 40000000 in
/-- 287 operations: from %571 through %703. -/
abbrev tlOps3 : List (HloOp τ sig (Elt F)) :=
  [ StableHlo.nullary main_v571 (iotaInDim S300000 32 0),
    StableHlo.nullary main_c_210 (constantI S_ 32 300000#32),
    StableHlo.unary main_c_210 main_v572 (broadcastInDim S262145 ![] bcast_S_S262145 : (⟨S_, .i32⟩ : BufTy).Contents (Elt F) → (⟨S262145, .i32⟩ : BufTy).Contents (Elt F)),
    StableHlo.nullary main_c_211 (constantI S_ 32 0#32),
    StableHlo.unary main_c_211 main_v573 (broadcastInDim S300000 ![] bcast_S_S300000 : (⟨S_, .i32⟩ : BufTy).Contents (Elt F) → (⟨S300000, .i32⟩ : BufTy).Contents (Elt F)),
    StableHlo.binary main_v570 main_v573 main_v574 (cmpi .slt : (⟨S300000, .i32⟩ : BufTy).Contents (Elt F) → (⟨S300000, .i32⟩ : BufTy).Contents (Elt F) → (⟨S300000, .i1⟩ : BufTy).Contents (Elt F)),
    StableHlo.nullary main_c_212 (constantI S_ 32 262145#32),
    StableHlo.unary main_c_212 main_v575 (broadcastInDim S300000 ![] bcast_S_S300000 : (⟨S_, .i32⟩ : BufTy).Contents (Elt F) → (⟨S300000, .i32⟩ : BufTy).Contents (Elt F)),
    StableHlo.binary main_v570 main_v575 main_v576 (addi : (⟨S300000, .i32⟩ : BufTy).Contents (Elt F) → (⟨S300000, .i32⟩ : BufTy).Contents (Elt F) → (⟨S300000, .i32⟩ : BufTy).Contents (Elt F)),
    StableHlo.ternary main_v574 main_v576 main_v570 main_v577 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v577 main_v578 (broadcastInDim S300000x1 ![0] bcast_S300000_S300000x1_0 : (⟨S300000, .i32⟩ : BufTy).Contents (Elt F) → (⟨S300000x1, .i32⟩ : BufTy).Contents (Elt F)),
    StableHlo.ternary main_v572 main_v578 main_v571 main_v579 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_213 (constantI S_ 32 0#32),
    StableHlo.unary main_c_213 main_v580 (broadcastInDim S300000 ![] bcast_S_S300000 : (⟨S_, .i32⟩ : BufTy).Contents (Elt F) → (⟨S300000, .i32⟩ : BufTy).Contents (Elt F)),
    StableHlo.binary main_v570 main_v580 main_v581 (cmpi .slt : (⟨S300000, .i32⟩ : BufTy).Contents (Elt F) → (⟨S300000, .i32⟩ : BufTy).Contents (Elt F) → (⟨S300000, .i1⟩ : BufTy).Contents (Elt F)),
    StableHlo.nullary main_c_214 (constantI S_ 32 262145#32),
    StableHlo.unary main_c_214 main_v582 (broadcastInDim S300000 ![] bcast_S_S300000 : (⟨S_, .i32⟩ : BufTy).Contents (Elt F) → (⟨S300000, .i32⟩ : BufTy).Contents (Elt F)),
    StableHlo.binary main_v570 main_v582 main_v583 (addi : (⟨S300000, .i32⟩ : BufTy).Contents (Elt F) → (⟨S300000, .i32⟩ : BufTy).Contents (Elt F) → (⟨S300000, .i32⟩ : BufTy).Contents (Elt F)),
    StableHlo.ternary main_v581 main_v583 main_v570 main_v584 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v584 main_v585 (broadcastInDim S300000x1 ![0] bcast_S300000_S300000x1_0 : (⟨S300000, .i32⟩ : BufTy).Contents (Elt F) → (⟨S300000x1, .i32⟩ : BufTy).Contents (Elt F)),
    StableHlo.binary main_v579 main_v585 main_v586 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v586 main_v571 main_v587 (cmpi .eq : (⟨S300000, .i32⟩ : BufTy).Contents (Elt F) → (⟨S300000, .i32⟩ : BufTy).Contents (Elt F) → (⟨S300000, .i1⟩ : BufTy).Contents (Elt F)),
    StableHlo.binary main_v557 main_v587 main_v588 (andi : (⟨S300000, .i1⟩ : BufTy).Contents (Elt F) → (⟨S300000, .i1⟩ : BufTy).Contents (Elt F) → (⟨S300000, .i1⟩ : BufTy).Contents (Elt F)),
    StableHlo.unary main_v588 main_v589 ((extui 32 · natLt_1_32) : (⟨S300000, .i1⟩ : BufTy).Contents (Elt F) → (⟨S300000, .i32⟩ : BufTy).Contents (Elt F)),
    StableHlo.TRef.nullary (.of main_call61_call0_c : StableHlo.TRef sig ⟨S_, .i32⟩) (constantI S_ 32 0#32),
    StableHlo.TRef.unary (.of main_call61_call0_c : StableHlo.TRef sig ⟨S_, .i32⟩) (.of main_call61_call0_v0 : StableHlo.TRef sig ⟨S_, .i32⟩) (broadcastInDim S_ ![] bcast_S_S_),
    StableHlo.TRef.binary (.of main_v589 : StableHlo.TRef sig ⟨S300000, .i32⟩) (.of main_call61_call0_v0 : StableHlo.TRef sig ⟨S_, .i32⟩) (.of main_v590 : StableHlo.TRef sig ⟨S300000, .i32⟩) (fun x v => Host.reduceWindow IntOp.addi ![300000] ![1] ![299999] ![0] x v reduceWindows_S300000_S300000_w300000s1p299999_0 h_S_),
    StableHlo.nullary main_c_215 (constantI S_ 32 1#32),
    StableHlo.unary main_c_215 main_v591 (broadcastInDim S300000 ![] bcast_S_S300000 : (⟨S_, .i32⟩ : BufTy).Contents (Elt F) → (⟨S300000, .i32⟩ : BufTy).Contents (Elt F)),
    StableHlo.binary main_v590 main_v591 main_v592 (subi : (⟨S300000, .i32⟩ : BufTy).Contents (Elt F) → (⟨S300000, .i32⟩ : BufTy).Contents (Elt F) → (⟨S300000, .i32⟩ : BufTy).Contents (Elt F)),
    StableHlo.nullary main_c_216 (constantI S_ 32 30000#32),
    StableHlo.unary main_c_216 main_v593 (broadcastInDim S262145 ![] bcast_S_S262145 : (⟨S_, .i32⟩ : BufTy).Contents (Elt F) → (⟨S262145, .i32⟩ : BufTy).Contents (Elt F)),
    StableHlo.nullary main_c_217 (constantI S_ 32 262144#32),
    StableHlo.TRef.unary (.of main_c_217 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S300000, .i32⟩) (broadcastInDim S300000 ![] bcast_S_S300000),
    StableHlo.TRef.ternary (.of main_v588 : StableHlo.TRef sig ⟨S300000, .i1⟩) (.of main_v570 : StableHlo.TRef sig ⟨S300000, .i32⟩) (.of main_call62_v1 : StableHlo.TRef sig ⟨S300000, .i32⟩) (.of main_v594 : StableHlo.TRef sig ⟨S300000, .i32⟩) select,
    StableHlo.nullary main_c_218 (constantI S_ 32 30000#32),
    StableHlo.unary main_c_218 main_v595 (broadcastInDim S300000 ![] bcast_S_S300000 : (⟨S_, .i32⟩ : BufTy).Contents (Elt F) → (⟨S300000, .i32⟩ : BufTy).Contents (Elt F)),
    StableHlo.binary main_v592 main_v595 main_v596 (minsi : (⟨S300000, .i32⟩ : BufTy).Contents (Elt F) → (⟨S300000, .i32⟩ : BufTy).Contents (Elt F) → (⟨S300000, .i32⟩ : BufTy).Contents (Elt F)),
    StableHlo.nullary main_c_219 (constantI S_ 32 30000#32),
    StableHlo.TRef.unary (.of main_c_219 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S300000, .i32⟩) (broadcastInDim S300000 ![] bcast_S_S300000),
    StableHlo.TRef.ternary (.of main_v588 : StableHlo.TRef sig ⟨S300000, .i1⟩) (.of main_v596 : StableHlo.TRef sig ⟨S300000, .i32⟩) (.of main_call63_v1 : StableHlo.TRef sig ⟨S300000, .i32⟩) (.of main_v597 : StableHlo.TRef sig ⟨S300000, .i32⟩) select,
    StableHlo.nullary main_c_220 (constantI S_ 32 0#32),
    StableHlo.unary main_c_220 main_v598 (broadcastInDim S300000 ![] bcast_S_S300000 : (⟨S_, .i32⟩ : BufTy).Contents (Elt F) → (⟨S300000, .i32⟩ : BufTy).Contents (Elt F)),
    StableHlo.binary main_v594 main_v598 main_v599 (cmpi .slt : (⟨S300000, .i32⟩ : BufTy).Contents (Elt F) → (⟨S300000, .i32⟩ : BufTy).Contents (Elt F) → (⟨S300000, .i1⟩ : BufTy).Contents (Elt F)),
    StableHlo.nullary main_c_221 (constantI S_ 32 262145#32),
    StableHlo.unary main_c_221 main_v600 (broadcastInDim S300000 ![] bcast_S_S300000 : (⟨S_, .i32⟩ : BufTy).Contents (Elt F) → (⟨S300000, .i32⟩ : BufTy).Contents (Elt F)),
    StableHlo.binary main_v594 main_v600 main_v601 (addi : (⟨S300000, .i32⟩ : BufTy).Contents (Elt F) → (⟨S300000, .i32⟩ : BufTy).Contents (Elt F) → (⟨S300000, .i32⟩ : BufTy).Contents (Elt F)),
    StableHlo.ternary main_v599 main_v601 main_v594 main_v602 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v602 main_v603 (broadcastInDim S300000x1 ![0] bcast_S300000_S300000x1_0 : (⟨S300000, .i32⟩ : BufTy).Contents (Elt F) → (⟨S300000x1, .i32⟩ : BufTy).Contents (Elt F)),
    StableHlo.ternary main_v593 main_v603 main_v597 main_v604 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_222 (constantI S_ 32 0#32),
    StableHlo.unary main_c_222 main_v605 (broadcastInDim S300000 ![] bcast_S_S300000 : (⟨S_, .i32⟩ : BufTy).Contents (Elt F) → (⟨S300000, .i32⟩ : BufTy).Contents (Elt F)),
    StableHlo.binary main_v570 main_v605 main_v606 (cmpi .slt : (⟨S300000, .i32⟩ : BufTy).Contents (Elt F) → (⟨S300000, .i32⟩ : BufTy).Contents (Elt F) → (⟨S300000, .i1⟩ : BufTy).Contents (Elt F)),
    StableHlo.nullary main_c_223 (constantI S_ 32 262145#32),
    StableHlo.unary main_c_223 main_v607 (broadcastInDim S300000 ![] bcast_S_S300000 : (⟨S_, .i32⟩ : BufTy).Contents (Elt F) → (⟨S300000, .i32⟩ : BufTy).Contents (Elt F)),
    StableHlo.binary main_v570 main_v607 main_v608 (addi : (⟨S300000, .i32⟩ : BufTy).Contents (Elt F) → (⟨S300000, .i32⟩ : BufTy).Contents (Elt F) → (⟨S300000, .i32⟩ : BufTy).Contents (Elt F)),
    StableHlo.ternary main_v606 main_v608 main_v570 main_v609 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v609 main_v610 (broadcastInDim S300000x1 ![0] bcast_S300000_S300000x1_0 : (⟨S300000, .i32⟩ : BufTy).Contents (Elt F) → (⟨S300000x1, .i32⟩ : BufTy).Contents (Elt F)),
    StableHlo.binary main_v604 main_v610 main_v611 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_224 (constantI S_ 32 30000#32),
    StableHlo.TRef.unary (.of main_c_224 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S300000, .i32⟩) (broadcastInDim S300000 ![] bcast_S_S300000),
    StableHlo.TRef.ternary (.of main_v557 : StableHlo.TRef sig ⟨S300000, .i1⟩) (.of main_v611 : StableHlo.TRef sig ⟨S300000, .i32⟩) (.of main_call64_v1 : StableHlo.TRef sig ⟨S300000, .i32⟩) (.of main_v612 : StableHlo.TRef sig ⟨S300000, .i32⟩) select,
    StableHlo.TRef.nullary (.of main_call65_v0 : StableHlo.TRef sig ⟨S300000, .i32⟩) (iotaInDim S300000 32 0),
    StableHlo.TRef.binary (.of main_v570 : StableHlo.TRef sig ⟨S300000, .i32⟩) (.of main_call65_v0 : StableHlo.TRef sig ⟨S300000, .i32⟩) (.of main_call65_v1_0 : StableHlo.TRef sig ⟨S300000, .i32⟩) (fun x y => (Host.sort2 S300000 0 comparator_i32_i32_d0 x y).1),
    StableHlo.TRef.binary (.of main_v570 : StableHlo.TRef sig ⟨S300000, .i32⟩) (.of main_call65_v0 : StableHlo.TRef sig ⟨S300000, .i32⟩) (.of main_v613 : StableHlo.TRef sig ⟨S300000, .i32⟩) (fun x y => (Host.sort2 S300000 0 comparator_i32_i32_d0 x y).2),
    StableHlo.nullary main_c_225 (constantI S_ 32 0#32),
    StableHlo.unary main_c_225 main_v614 (broadcastInDim S300000 ![] bcast_S_S300000 : (⟨S_, .i32⟩ : BufTy).Contents (Elt F) → (⟨S300000, .i32⟩ : BufTy).Contents (Elt F)),
    StableHlo.binary main_v613 main_v614 main_v615 (cmpi .slt : (⟨S300000, .i32⟩ : BufTy).Contents (Elt F) → (⟨S300000, .i32⟩ : BufTy).Contents (Elt F) → (⟨S300000, .i1⟩ : BufTy).Contents (Elt F)),
    StableHlo.nullary main_c_226 (constantI S_ 32 300000#32),
    StableHlo.unary main_c_226 main_v616 (broadcastInDim S300000 ![] bcast_S_S300000 : (⟨S_, .i32⟩ : BufTy).Contents (Elt F) → (⟨S300000, .i32⟩ : BufTy).Contents (Elt F)),
    StableHlo.binary main_v613 main_v616 main_v617 (addi : (⟨S300000, .i32⟩ : BufTy).Contents (Elt F) → (⟨S300000, .i32⟩ : BufTy).Contents (Elt F) → (⟨S300000, .i32⟩ : BufTy).Contents (Elt F)),
    StableHlo.ternary main_v615 main_v617 main_v613 main_v618 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v618 main_v619 (broadcastInDim S300000x1 ![0] bcast_S300000_S300000x1_0 : (⟨S300000, .i32⟩ : BufTy).Contents (Elt F) → (⟨S300000x1, .i32⟩ : BufTy).Contents (Elt F)),
    StableHlo.binary main_v570 main_v619 main_v620 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_227 (constantI S_ 1 1#1),
    StableHlo.unary main_c_227 main_v621 (broadcastInDim S1 ![] bcast_S_S1 : (⟨S_, .i1⟩ : BufTy).Contents (Elt F) → (⟨S1, .i1⟩ : BufTy).Contents (Elt F)),
    StableHlo.unary main_v620 main_v622 ((extractStridedSlice S299999 ![1] · slices_S300000_S299999_1) : (⟨S300000, .i32⟩ : BufTy).Contents (Elt F) → (⟨S299999, .i32⟩ : BufTy).Contents (Elt F)),
    StableHlo.unary main_v620 main_v623 ((extractStridedSlice S299999 ![0] · slices_S300000_S299999_0) : (⟨S300000, .i32⟩ : BufTy).Contents (Elt F) → (⟨S299999, .i32⟩ : BufTy).Contents (Elt F)),
    StableHlo.binary main_v622 main_v623 main_v624 (cmpi .ne : (⟨S299999, .i32⟩ : BufTy).Contents (Elt F) → (⟨S299999, .i32⟩ : BufTy).Contents (Elt F) → (⟨S299999, .i1⟩ : BufTy).Contents (Elt F)),
    StableHlo.binary main_v621 main_v624 main_v625 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_228 (constantI S_ 32 0#32),
    StableHlo.TRef.unary (.of main_c_228 : StableHlo.TRef sig ⟨S_, .i32⟩) (.of main_call66_v0 : StableHlo.TRef sig ⟨S_, .i32⟩) id,
    StableHlo.TRef.unary (.of main_call66_v0 : StableHlo.TRef sig ⟨S_, .i32⟩) (.of main_call66_v1 : StableHlo.TRef sig ⟨S300000, .i32⟩) (broadcastInDim S300000 ![] bcast_S_S300000),
    StableHlo.TRef.ternary (.of main_v625 : StableHlo.TRef sig ⟨S300000, .i1⟩) (.of main_v571 : StableHlo.TRef sig ⟨S300000, .i32⟩) (.of main_call66_v1 : StableHlo.TRef sig ⟨S300000, .i32⟩) (.of main_v626 : StableHlo.TRef sig ⟨S300000, .i32⟩) select,
    StableHlo.TRef.nullary (.of main_call67_c : StableHlo.TRef sig ⟨S_, .i32⟩) (constantI S_ 32 2147483648#32),
    StableHlo.TRef.unary (.of main_call67_c : StableHlo.TRef sig ⟨S_, .i32⟩) (.of main_call67_v0 : StableHlo.TRef sig ⟨S_, .i32⟩) (broadcastInDim S_ ![] bcast_S_S_),
    StableHlo.TRef.binary (.of main_v626 : StableHlo.TRef sig ⟨S300000, .i32⟩) (.of main_call67_v0 : StableHlo.TRef sig ⟨S_, .i32⟩) (.of main_v627 : StableHlo.TRef sig ⟨S300000, .i32⟩) (fun x v => Host.reduceWindow IntOp.maxsi ![300000] ![1] ![299999] ![0] x v reduceWindows_S300000_S300000_w300000s1p299999_0 h_S_),
    StableHlo.nullary main_c_229 (constantI S_ 32 0#32),
    StableHlo.unary main_c_229 main_v628 (broadcastInDim S300000 ![] bcast_S_S300000 : (⟨S_, .i32⟩ : BufTy).Contents (Elt F) → (⟨S300000, .i32⟩ : BufTy).Contents (Elt F)),
    StableHlo.binary main_v571 main_v627 main_v629 (subi : (⟨S300000, .i32⟩ : BufTy).Contents (Elt F) → (⟨S300000, .i32⟩ : BufTy).Contents (Elt F) → (⟨S300000, .i32⟩ : BufTy).Contents (Elt F)),
    StableHlo.nullary main_c_230 (constantI S_ 32 0#32),
    StableHlo.unary main_c_230 main_v630 (broadcastInDim S300000 ![] bcast_S_S300000 : (⟨S_, .i32⟩ : BufTy).Contents (Elt F) → (⟨S300000, .i32⟩ : BufTy).Contents (Elt F)),
    StableHlo.binary main_v613 main_v630 main_v631 (cmpi .slt : (⟨S300000, .i32⟩ : BufTy).Contents (Elt F) → (⟨S300000, .i32⟩ : BufTy).Contents (Elt F) → (⟨S300000, .i1⟩ : BufTy).Contents (Elt F)),
    StableHlo.nullary main_c_231 (constantI S_ 32 300000#32),
    StableHlo.unary main_c_231 main_v632 (broadcastInDim S300000 ![] bcast_S_S300000 : (⟨S_, .i32⟩ : BufTy).Contents (Elt F) → (⟨S300000, .i32⟩ : BufTy).Contents (Elt F)),
    StableHlo.binary main_v613 main_v632 main_v633 (addi : (⟨S300000, .i32⟩ : BufTy).Contents (Elt F) → (⟨S300000, .i32⟩ : BufTy).Contents (Elt F) → (⟨S300000, .i32⟩ : BufTy).Contents (Elt F)),
    StableHlo.ternary main_v631 main_v633 main_v613 main_v634 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v634 main_v635 (broadcastInDim S300000x1 ![0] bcast_S300000_S300000x1_0 : (⟨S300000, .i32⟩ : BufTy).Contents (Elt F) → (⟨S300000x1, .i32⟩ : BufTy).Contents (Elt F)),
    StableHlo.ternary main_v628 main_v635 main_v629 main_v636 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_232 (constantI S_ 32 30000#32),
    StableHlo.unary main_c_232 main_v637 (broadcastInDim S300000 ![] bcast_S_S300000 : (⟨S_, .i32⟩ : BufTy).Contents (Elt F) → (⟨S300000, .i32⟩ : BufTy).Contents (Elt F)),
    StableHlo.binary main_v612 main_v637 main_v638 (cmpi .slt : (⟨S300000, .i32⟩ : BufTy).Contents (Elt F) → (⟨S300000, .i32⟩ : BufTy).Contents (Elt F) → (⟨S300000, .i1⟩ : BufTy).Contents (Elt F)),
    StableHlo.binary main_v557 main_v638 main_v639 (andi : (⟨S300000, .i1⟩ : BufTy).Contents (Elt F) → (⟨S300000, .i1⟩ : BufTy).Contents (Elt F) → (⟨S300000, .i1⟩ : BufTy).Contents (Elt F)),
    StableHlo.nullary main_c_233 (constantI S_ 32 20#32),
    StableHlo.unary main_c_233 main_v640 (broadcastInDim S300000 ![] bcast_S_S300000 : (⟨S_, .i32⟩ : BufTy).Contents (Elt F) → (⟨S300000, .i32⟩ : BufTy).Contents (Elt F)),
    StableHlo.binary main_v636 main_v640 main_v641 (cmpi .slt : (⟨S300000, .i32⟩ : BufTy).Contents (Elt F) → (⟨S300000, .i32⟩ : BufTy).Contents (Elt F) → (⟨S300000, .i1⟩ : BufTy).Contents (Elt F)),
    StableHlo.binary main_v639 main_v641 main_v642 (andi : (⟨S300000, .i1⟩ : BufTy).Contents (Elt F) → (⟨S300000, .i1⟩ : BufTy).Contents (Elt F) → (⟨S300000, .i1⟩ : BufTy).Contents (Elt F)),
    StableHlo.nullary main_c_234 (constantI S_ 32 30000#32),
    StableHlo.TRef.unary (.of main_c_234 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S300000, .i32⟩) (broadcastInDim S300000 ![] bcast_S_S300000),
    StableHlo.TRef.ternary (.of main_v642 : StableHlo.TRef sig ⟨S300000, .i1⟩) (.of main_v612 : StableHlo.TRef sig ⟨S300000, .i32⟩) (.of main_call68_v1 : StableHlo.TRef sig ⟨S300000, .i32⟩) (.of main_v643 : StableHlo.TRef sig ⟨S300000, .i32⟩) select,
    StableHlo.nullary main_c_235 (constantI S_ 32 0#32),
    StableHlo.TRef.unary (.of main_c_235 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S300000, .i32⟩) (broadcastInDim S300000 ![] bcast_S_S300000),
    StableHlo.TRef.ternary (.of main_v642 : StableHlo.TRef sig ⟨S300000, .i1⟩) (.of main_v636 : StableHlo.TRef sig ⟨S300000, .i32⟩) (.of main_call69_v1 : StableHlo.TRef sig ⟨S300000, .i32⟩) (.of main_v644 : StableHlo.TRef sig ⟨S300000, .i32⟩) select,
    StableHlo.nullary main_cst_236 (constant S_ .f32 0x00000000#32),
    StableHlo.unary main_cst_236 main_v645 (broadcastInDim S30001x20x5 ![] bcast_S_S30001x20x5 : (⟨S_, .f32⟩ : BufTy).Contents (Elt F) → (⟨S30001x20x5, .f32⟩ : BufTy).Contents (Elt F)),
    StableHlo.unary main_v642 main_v646 (broadcastInDim S300000x1 ![0] bcast_S300000_S300000x1_0 : (⟨S300000, .i1⟩ : BufTy).Contents (Elt F) → (⟨S300000x1, .i1⟩ : BufTy).Contents (Elt F)),
    StableHlo.nullary main_cst_237 (constant S_ .f32 0x00000000#32),
    StableHlo.TRef.unary (.of main_cst_237 : StableHlo.TRef sig ⟨S_, .f32⟩) (.of main_call70_v0 : StableHlo.TRef sig ⟨S_, .f32⟩) id,
    StableHlo.TRef.unary (.of main_v646 : StableHlo.TRef sig ⟨S300000x1, .i1⟩) (.of main_call70_v1 : StableHlo.TRef sig ⟨S300000x5, .i1⟩) (broadcastInDim S300000x5 ![0, 1] bcast_S300000x1_S300000x5_0_1),
    StableHlo.TRef.unary (.of main_call70_v0 : StableHlo.TRef sig ⟨S_, .f32⟩) (.of main_call70_v2 : StableHlo.TRef sig ⟨S300000x5, .f32⟩) (broadcastInDim S300000x5 ![] bcast_S_S300000x5),
    StableHlo.TRef.ternary (.of main_call70_v1 : StableHlo.TRef sig ⟨S300000x5, .i1⟩) (.of main_v541 : StableHlo.TRef sig ⟨S300000x5, .f32⟩) (.of main_call70_v2 : StableHlo.TRef sig ⟨S300000x5, .f32⟩) (.of main_v647 : StableHlo.TRef sig ⟨S300000x5, .f32⟩) select,
    StableHlo.nullary main_c_238 (constantI S_ 32 0#32),
    StableHlo.unary main_c_238 main_v648 (broadcastInDim S300000 ![] bcast_S_S300000 : (⟨S_, .i32⟩ : BufTy).Contents (Elt F) → (⟨S300000, .i32⟩ : BufTy).Contents (Elt F)),
    StableHlo.binary main_v643 main_v648 main_v649 (cmpi .slt : (⟨S300000, .i32⟩ : BufTy).Contents (Elt F) → (⟨S300000, .i32⟩ : BufTy).Contents (Elt F) → (⟨S300000, .i1⟩ : BufTy).Contents (Elt F)),
    StableHlo.nullary main_c_239 (constantI S_ 32 30001#32),
    StableHlo.unary main_c_239 main_v650 (broadcastInDim S300000 ![] bcast_S_S300000 : (⟨S_, .i32⟩ : BufTy).Contents (Elt F) → (⟨S300000, .i32⟩ : BufTy).Contents (Elt F)),
    StableHlo.binary main_v643 main_v650 main_v651 (addi : (⟨S300000, .i32⟩ : BufTy).Contents (Elt F) → (⟨S300000, .i32⟩ : BufTy).Contents (Elt F) → (⟨S300000, .i32⟩ : BufTy).Contents (Elt F)),
    StableHlo.ternary main_v649 main_v651 main_v643 main_v652 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_240 (constantI S_ 32 0#32),
    StableHlo.unary main_c_240 main_v653 (broadcastInDim S300000 ![] bcast_S_S300000 : (⟨S_, .i32⟩ : BufTy).Contents (Elt F) → (⟨S300000, .i32⟩ : BufTy).Contents (Elt F)),
    StableHlo.binary main_v644 main_v653 main_v654 (cmpi .slt : (⟨S300000, .i32⟩ : BufTy).Contents (Elt F) → (⟨S300000, .i32⟩ : BufTy).Contents (Elt F) → (⟨S300000, .i1⟩ : BufTy).Contents (Elt F)),
    StableHlo.nullary main_c_241 (constantI S_ 32 20#32),
    StableHlo.unary main_c_241 main_v655 (broadcastInDim S300000 ![] bcast_S_S300000 : (⟨S_, .i32⟩ : BufTy).Contents (Elt F) → (⟨S300000, .i32⟩ : BufTy).Contents (Elt F)),
    StableHlo.binary main_v644 main_v655 main_v656 (addi : (⟨S300000, .i32⟩ : BufTy).Contents (Elt F) → (⟨S300000, .i32⟩ : BufTy).Contents (Elt F) → (⟨S300000, .i32⟩ : BufTy).Contents (Elt F)),
    StableHlo.ternary main_v654 main_v656 main_v644 main_v657 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v652 main_v658 (broadcastInDim S300000x1 ![0] bcast_S300000_S300000x1_0 : (⟨S300000, .i32⟩ : BufTy).Contents (Elt F) → (⟨S300000x1, .i32⟩ : BufTy).Contents (Elt F)),
    StableHlo.unary main_v657 main_v659 (broadcastInDim S300000x1 ![0] bcast_S300000_S300000x1_0 : (⟨S300000, .i32⟩ : BufTy).Contents (Elt F) → (⟨S300000x1, .i32⟩ : BufTy).Contents (Elt F)),
    StableHlo.binary main_v658 main_v659 main_v660 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v645 main_v660 main_v647 main_v661 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v661 main_v662 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v642 main_v663 ((extui 32 · natLt_1_32) : (⟨S300000, .i1⟩ : BufTy).Contents (Elt F) → (⟨S300000, .i32⟩ : BufTy).Contents (Elt F)),
    StableHlo.nullary main_c_242 (constantI S_ 32 0#32),
    StableHlo.unary main_c_242 main_v664 (broadcastInDim S30001 ![] bcast_S_S30001 : (⟨S_, .i32⟩ : BufTy).Contents (Elt F) → (⟨S30001, .i32⟩ : BufTy).Contents (Elt F)),
    StableHlo.unary main_v643 main_v665 (broadcastInDim S300000x1 ![0] bcast_S300000_S300000x1_0 : (⟨S300000, .i32⟩ : BufTy).Contents (Elt F) → (⟨S300000x1, .i32⟩ : BufTy).Contents (Elt F)),
    StableHlo.ternary main_v664 main_v665 main_v663 main_v666 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v666 main_v667 ((extractStridedSlice S30000 ![0] · slices_S30001_S30000_0) : (⟨S30001, .i32⟩ : BufTy).Contents (Elt F) → (⟨S30000, .i32⟩ : BufTy).Contents (Elt F)),
    StableHlo.nullary main_c_243 (constantI S_ 32 4294967295#32),
    StableHlo.unary main_c_243 main_v668 (broadcastInDim S30001 ![] bcast_S_S30001 : (⟨S_, .i32⟩ : BufTy).Contents (Elt F) → (⟨S30001, .i32⟩ : BufTy).Contents (Elt F)),
    StableHlo.nullary main_c_244 (constantI S_ 32 30000#32),
    StableHlo.unary main_c_244 main_v669 (broadcastInDim S300000 ![] bcast_S_S300000 : (⟨S_, .i32⟩ : BufTy).Contents (Elt F) → (⟨S300000, .i32⟩ : BufTy).Contents (Elt F)),
    StableHlo.binary main_v592 main_v669 main_v670 (cmpi .slt : (⟨S300000, .i32⟩ : BufTy).Contents (Elt F) → (⟨S300000, .i32⟩ : BufTy).Contents (Elt F) → (⟨S300000, .i1⟩ : BufTy).Contents (Elt F)),
    StableHlo.binary main_v588 main_v670 main_v671 (andi : (⟨S300000, .i1⟩ : BufTy).Contents (Elt F) → (⟨S300000, .i1⟩ : BufTy).Contents (Elt F) → (⟨S300000, .i1⟩ : BufTy).Contents (Elt F)),
    StableHlo.nullary main_c_245 (constantI S_ 32 30000#32),
    StableHlo.TRef.unary (.of main_c_245 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S300000, .i32⟩) (broadcastInDim S300000 ![] bcast_S_S300000),
    StableHlo.TRef.ternary (.of main_v671 : StableHlo.TRef sig ⟨S300000, .i1⟩) (.of main_v592 : StableHlo.TRef sig ⟨S300000, .i32⟩) (.of main_call71_v1 : StableHlo.TRef sig ⟨S300000, .i32⟩) (.of main_v672 : StableHlo.TRef sig ⟨S300000, .i32⟩) select,
    StableHlo.nullary main_c_246 (constantI S_ 32 30000#32),
    StableHlo.unary main_c_246 main_v673 (broadcastInDim S300000 ![] bcast_S_S300000 : (⟨S_, .i32⟩ : BufTy).Contents (Elt F) → (⟨S300000, .i32⟩ : BufTy).Contents (Elt F)),
    StableHlo.binary main_v592 main_v673 main_v674 (cmpi .slt : (⟨S300000, .i32⟩ : BufTy).Contents (Elt F) → (⟨S300000, .i32⟩ : BufTy).Contents (Elt F) → (⟨S300000, .i1⟩ : BufTy).Contents (Elt F)),
    StableHlo.binary main_v588 main_v674 main_v675 (andi : (⟨S300000, .i1⟩ : BufTy).Contents (Elt F) → (⟨S300000, .i1⟩ : BufTy).Contents (Elt F) → (⟨S300000, .i1⟩ : BufTy).Contents (Elt F)),
    StableHlo.nullary main_c_247 (constantI S_ 32 4294967295#32),
    StableHlo.TRef.unary (.of main_c_247 : StableHlo.TRef sig ⟨S_, .i32⟩) (.of main_call72_v0 : StableHlo.TRef sig ⟨S_, .i32⟩) id,
    StableHlo.TRef.unary (.of main_call72_v0 : StableHlo.TRef sig ⟨S_, .i32⟩) (.of main_call72_v1 : StableHlo.TRef sig ⟨S300000, .i32⟩) (broadcastInDim S300000 ![] bcast_S_S300000),
    StableHlo.TRef.ternary (.of main_v675 : StableHlo.TRef sig ⟨S300000, .i1⟩) (.of main_v570 : StableHlo.TRef sig ⟨S300000, .i32⟩) (.of main_call72_v1 : StableHlo.TRef sig ⟨S300000, .i32⟩) (.of main_v676 : StableHlo.TRef sig ⟨S300000, .i32⟩) select,
    StableHlo.nullary main_c_248 (constantI S_ 32 0#32),
    StableHlo.unary main_c_248 main_v677 (broadcastInDim S300000 ![] bcast_S_S300000 : (⟨S_, .i32⟩ : BufTy).Contents (Elt F) → (⟨S300000, .i32⟩ : BufTy).Contents (Elt F)),
    StableHlo.binary main_v672 main_v677 main_v678 (cmpi .slt : (⟨S300000, .i32⟩ : BufTy).Contents (Elt F) → (⟨S300000, .i32⟩ : BufTy).Contents (Elt F) → (⟨S300000, .i1⟩ : BufTy).Contents (Elt F)),
    StableHlo.nullary main_c_249 (constantI S_ 32 30001#32),
    StableHlo.unary main_c_249 main_v679 (broadcastInDim S300000 ![] bcast_S_S300000 : (⟨S_, .i32⟩ : BufTy).Contents (Elt F) → (⟨S300000, .i32⟩ : BufTy).Contents (Elt F)),
    StableHlo.binary main_v672 main_v679 main_v680 (addi : (⟨S300000, .i32⟩ : BufTy).Contents (Elt F) → (⟨S300000, .i32⟩ : BufTy).Contents (Elt F) → (⟨S300000, .i32⟩ : BufTy).Contents (Elt F)),
    StableHlo.ternary main_v678 main_v680 main_v672 main_v681 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v681 main_v682 (broadcastInDim S300000x1 ![0] bcast_S300000_S300000x1_0 : (⟨S300000, .i32⟩ : BufTy).Contents (Elt F) → (⟨S300000x1, .i32⟩ : BufTy).Contents (Elt F)),
    StableHlo.ternary main_v668 main_v682 main_v676 main_v683 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v683 main_v684 ((extractStridedSlice S30000 ![0] · slices_S30001_S30000_0) : (⟨S30001, .i32⟩ : BufTy).Contents (Elt F) → (⟨S30000, .i32⟩ : BufTy).Contents (Elt F)),
    StableHlo.nullary main_c_250 (constantI S_ 32 0#32),
    StableHlo.unary main_c_250 main_v685 (broadcastInDim S30000 ![] bcast_S_S30000 : (⟨S_, .i32⟩ : BufTy).Contents (Elt F) → (⟨S30000, .i32⟩ : BufTy).Contents (Elt F)),
    StableHlo.binary main_v684 main_v685 main_v686 (cmpi .sge : (⟨S30000, .i32⟩ : BufTy).Contents (Elt F) → (⟨S30000, .i32⟩ : BufTy).Contents (Elt F) → (⟨S30000, .i1⟩ : BufTy).Contents (Elt F)),
    StableHlo.nullary main_c_251 (constantI S_ 32 262144#32),
    StableHlo.TRef.unary (.of main_c_251 : StableHlo.TRef sig ⟨S_, .i32⟩) (.of main_call73_v0 : StableHlo.TRef sig ⟨S_, .i32⟩) id,
    StableHlo.TRef.unary (.of main_call73_v0 : StableHlo.TRef sig ⟨S_, .i32⟩) (.of main_call73_v1 : StableHlo.TRef sig ⟨S30000, .i32⟩) (broadcastInDim S30000 ![] bcast_S_S30000),
    StableHlo.TRef.binary (.of main_v684 : StableHlo.TRef sig ⟨S30000, .i32⟩) (.of main_call73_v1 : StableHlo.TRef sig ⟨S30000, .i32⟩) (.of main_call73_v2 : StableHlo.TRef sig ⟨S30000, .i32⟩) Host.divsi,
    StableHlo.TRef.unary (.of main_v684 : StableHlo.TRef sig ⟨S30000, .i32⟩) (.of main_call73_v3 : StableHlo.TRef sig ⟨S30000, .i32⟩) signi,
    StableHlo.TRef.unary (.of main_call73_v0 : StableHlo.TRef sig ⟨S_, .i32⟩) (.of main_call73_v4 : StableHlo.TRef sig ⟨S_, .i32⟩) signi,
    StableHlo.TRef.unary (.of main_call73_v4 : StableHlo.TRef sig ⟨S_, .i32⟩) (.of main_call73_v5 : StableHlo.TRef sig ⟨S30000, .i32⟩) (broadcastInDim S30000 ![] bcast_S_S30000),
    StableHlo.TRef.binary (.of main_call73_v3 : StableHlo.TRef sig ⟨S30000, .i32⟩) (.of main_call73_v5 : StableHlo.TRef sig ⟨S30000, .i32⟩) (.of main_call73_v6 : StableHlo.TRef sig ⟨S30000, .i1⟩) (cmpi .ne),
    StableHlo.TRef.unary (.of main_call73_v0 : StableHlo.TRef sig ⟨S_, .i32⟩) (.of main_call73_v7 : StableHlo.TRef sig ⟨S30000, .i32⟩) (broadcastInDim S30000 ![] bcast_S_S30000),
    StableHlo.TRef.binary (.of main_v684 : StableHlo.TRef sig ⟨S30000, .i32⟩) (.of main_call73_v7 : StableHlo.TRef sig ⟨S30000, .i32⟩) (.of main_call73_v8 : StableHlo.TRef sig ⟨S30000, .i32⟩) Host.remsi,
    StableHlo.TRef.nullary (.of main_call73_c : StableHlo.TRef sig ⟨S_, .i32⟩) (constantI S_ 32 0#32),
    StableHlo.TRef.unary (.of main_call73_c : StableHlo.TRef sig ⟨S_, .i32⟩) (.of main_call73_v9 : StableHlo.TRef sig ⟨S30000, .i32⟩) (broadcastInDim S30000 ![] bcast_S_S30000),
    StableHlo.TRef.binary (.of main_call73_v8 : StableHlo.TRef sig ⟨S30000, .i32⟩) (.of main_call73_v9 : StableHlo.TRef sig ⟨S30000, .i32⟩) (.of main_call73_v10 : StableHlo.TRef sig ⟨S30000, .i1⟩) (cmpi .ne),
    StableHlo.TRef.binary (.of main_call73_v6 : StableHlo.TRef sig ⟨S30000, .i1⟩) (.of main_call73_v10 : StableHlo.TRef sig ⟨S30000, .i1⟩) (.of main_call73_v11 : StableHlo.TRef sig ⟨S30000, .i1⟩) andi,
    StableHlo.TRef.nullary (.of main_call73_c_0 : StableHlo.TRef sig ⟨S_, .i32⟩) (constantI S_ 32 1#32),
    StableHlo.TRef.unary (.of main_call73_c_0 : StableHlo.TRef sig ⟨S_, .i32⟩) (.of main_call73_v12 : StableHlo.TRef sig ⟨S30000, .i32⟩) (broadcastInDim S30000 ![] bcast_S_S30000),
    StableHlo.TRef.binary (.of main_call73_v2 : StableHlo.TRef sig ⟨S30000, .i32⟩) (.of main_call73_v12 : StableHlo.TRef sig ⟨S30000, .i32⟩) (.of main_call73_v13 : StableHlo.TRef sig ⟨S30000, .i32⟩) subi,
    StableHlo.TRef.ternary (.of main_call73_v11 : StableHlo.TRef sig ⟨S30000, .i1⟩) (.of main_call73_v13 : StableHlo.TRef sig ⟨S30000, .i32⟩) (.of main_call73_v2 : StableHlo.TRef sig ⟨S30000, .i32⟩) (.of main_v687 : StableHlo.TRef sig ⟨S30000, .i32⟩) select,
    StableHlo.nullary main_c_252 (constantI S_ 32 4294967295#32),
    StableHlo.TRef.unary (.of main_c_252 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S30000, .i32⟩) (broadcastInDim S30000 ![] bcast_S_S30000),
    StableHlo.TRef.ternary (.of main_v686 : StableHlo.TRef sig ⟨S30000, .i1⟩) (.of main_v687 : StableHlo.TRef sig ⟨S30000, .i32⟩) (.of main_call74_v1 : StableHlo.TRef sig ⟨S30000, .i32⟩) (.of main_v688 : StableHlo.TRef sig ⟨S30000, .i32⟩) select,
    StableHlo.nullary main_c_253 (constantI S_ 32 0#32),
    StableHlo.unary main_c_253 main_v689 (broadcastInDim S30000 ![] bcast_S_S30000 : (⟨S_, .i32⟩ : BufTy).Contents (Elt F) → (⟨S30000, .i32⟩ : BufTy).Contents (Elt F)),
    StableHlo.binary main_v684 main_v689 main_v690 (cmpi .sge : (⟨S30000, .i32⟩ : BufTy).Contents (Elt F) → (⟨S30000, .i32⟩ : BufTy).Contents (Elt F) → (⟨S30000, .i1⟩ : BufTy).Contents (Elt F)),
    StableHlo.nullary main_c_254 (constantI S_ 32 512#32),
    StableHlo.TRef.unary (.of main_c_254 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S30000, .i32⟩) (broadcastInDim S30000 ![] bcast_S_S30000),
    StableHlo.TRef.binary (.of main_v684 : StableHlo.TRef sig ⟨S30000, .i32⟩) (.of main_call75_v1 : StableHlo.TRef sig ⟨S30000, .i32⟩) (.of main_call75_v2 : StableHlo.TRef sig ⟨S30000, .i32⟩) Host.divsi,
    StableHlo.TRef.unary (.of main_v684 : StableHlo.TRef sig ⟨S30000, .i32⟩) (.of main_call75_v3 : StableHlo.TRef sig ⟨S30000, .i32⟩) signi,
    StableHlo.TRef.unary (.of main_call75_v0 : StableHlo.TRef sig ⟨S_, .i32⟩) (.of main_call75_v4 : StableHlo.TRef sig ⟨S_, .i32⟩) signi,
    StableHlo.TRef.unary (.of main_call75_v4 : StableHlo.TRef sig ⟨S_, .i32⟩) (.of main_call75_v5 : StableHlo.TRef sig ⟨S30000, .i32⟩) (broadcastInDim S30000 ![] bcast_S_S30000),
    StableHlo.TRef.binary (.of main_call75_v3 : StableHlo.TRef sig ⟨S30000, .i32⟩) (.of main_call75_v5 : StableHlo.TRef sig ⟨S30000, .i32⟩) (.of main_call75_v6 : StableHlo.TRef sig ⟨S30000, .i1⟩) (cmpi .ne),
    StableHlo.TRef.unary (.of main_call75_v0 : StableHlo.TRef sig ⟨S_, .i32⟩) (.of main_call75_v7 : StableHlo.TRef sig ⟨S30000, .i32⟩) (broadcastInDim S30000 ![] bcast_S_S30000),
    StableHlo.TRef.binary (.of main_v684 : StableHlo.TRef sig ⟨S30000, .i32⟩) (.of main_call75_v7 : StableHlo.TRef sig ⟨S30000, .i32⟩) (.of main_call75_v8 : StableHlo.TRef sig ⟨S30000, .i32⟩) Host.remsi,
    StableHlo.TRef.nullary (.of main_call75_c : StableHlo.TRef sig ⟨S_, .i32⟩) (constantI S_ 32 0#32),
    StableHlo.TRef.unary (.of main_call75_c : StableHlo.TRef sig ⟨S_, .i32⟩) (.of main_call75_v9 : StableHlo.TRef sig ⟨S30000, .i32⟩) (broadcastInDim S30000 ![] bcast_S_S30000),
    StableHlo.TRef.binary (.of main_call75_v8 : StableHlo.TRef sig ⟨S30000, .i32⟩) (.of main_call75_v9 : StableHlo.TRef sig ⟨S30000, .i32⟩) (.of main_call75_v10 : StableHlo.TRef sig ⟨S30000, .i1⟩) (cmpi .ne),
    StableHlo.TRef.binary (.of main_call75_v6 : StableHlo.TRef sig ⟨S30000, .i1⟩) (.of main_call75_v10 : StableHlo.TRef sig ⟨S30000, .i1⟩) (.of main_call75_v11 : StableHlo.TRef sig ⟨S30000, .i1⟩) andi,
    StableHlo.TRef.nullary (.of main_call75_c_0 : StableHlo.TRef sig ⟨S_, .i32⟩) (constantI S_ 32 1#32),
    StableHlo.TRef.unary (.of main_call75_c_0 : StableHlo.TRef sig ⟨S_, .i32⟩) (.of main_call75_v12 : StableHlo.TRef sig ⟨S30000, .i32⟩) (broadcastInDim S30000 ![] bcast_S_S30000),
    StableHlo.TRef.binary (.of main_call75_v2 : StableHlo.TRef sig ⟨S30000, .i32⟩) (.of main_call75_v12 : StableHlo.TRef sig ⟨S30000, .i32⟩) (.of main_call75_v13 : StableHlo.TRef sig ⟨S30000, .i32⟩) subi,
    StableHlo.TRef.ternary (.of main_call75_v11 : StableHlo.TRef sig ⟨S30000, .i1⟩) (.of main_call75_v13 : StableHlo.TRef sig ⟨S30000, .i32⟩) (.of main_call75_v2 : StableHlo.TRef sig ⟨S30000, .i32⟩) (.of main_v691 : StableHlo.TRef sig ⟨S30000, .i32⟩) select,
    StableHlo.nullary main_c_255 (constantI S_ 32 512#32),
    StableHlo.TRef.unary (.of main_c_255 : StableHlo.TRef sig ⟨S_, .i32⟩) (.of main_call76_v0 : StableHlo.TRef sig ⟨S_, .i32⟩) id,
    StableHlo.TRef.nullary (.of main_call76_c : StableHlo.TRef sig ⟨S_, .i32⟩) (constantI S_ 32 0#32),
    StableHlo.TRef.binary (.of main_call76_v0 : StableHlo.TRef sig ⟨S_, .i32⟩) (.of main_call76_c : StableHlo.TRef sig ⟨S_, .i32⟩) (.of main_call76_v1 : StableHlo.TRef sig ⟨S_, .i1⟩) (cmpi .eq),
    StableHlo.TRef.nullary (.of main_call76_c_0 : StableHlo.TRef sig ⟨S_, .i32⟩) (constantI S_ 32 1#32),
    StableHlo.TRef.ternary (.of main_call76_v1 : StableHlo.TRef sig ⟨S_, .i1⟩) (.of main_call76_c_0 : StableHlo.TRef sig ⟨S_, .i32⟩) (.of main_call76_v0 : StableHlo.TRef sig ⟨S_, .i32⟩) (.of main_call76_v2 : StableHlo.TRef sig ⟨S_, .i32⟩) select,
    StableHlo.TRef.unary (.of main_call76_v2 : StableHlo.TRef sig ⟨S_, .i32⟩) (.of main_call76_v3 : StableHlo.TRef sig ⟨S30000, .i32⟩) (broadcastInDim S30000 ![] bcast_S_S30000),
    StableHlo.TRef.binary (.of main_v691 : StableHlo.TRef sig ⟨S30000, .i32⟩) (.of main_call76_v3 : StableHlo.TRef sig ⟨S30000, .i32⟩) (.of main_call76_v4 : StableHlo.TRef sig ⟨S30000, .i32⟩) Host.remsi,
    StableHlo.TRef.nullary (.of main_call76_c_1 : StableHlo.TRef sig ⟨S_, .i32⟩) (constantI S_ 32 0#32),
    StableHlo.TRef.unary (.of main_call76_c_1 : StableHlo.TRef sig ⟨S_, .i32⟩) (.of main_call76_v5 : StableHlo.TRef sig ⟨S30000, .i32⟩) (broadcastInDim S30000 ![] bcast_S_S30000),
    StableHlo.TRef.binary (.of main_call76_v4 : StableHlo.TRef sig ⟨S30000, .i32⟩) (.of main_call76_v5 : StableHlo.TRef sig ⟨S30000, .i32⟩) (.of main_call76_v6 : StableHlo.TRef sig ⟨S30000, .i1⟩) (cmpi .ne),
    StableHlo.TRef.nullary (.of main_call76_c_2 : StableHlo.TRef sig ⟨S_, .i32⟩) (constantI S_ 32 0#32),
    StableHlo.TRef.unary (.of main_call76_c_2 : StableHlo.TRef sig ⟨S_, .i32⟩) (.of main_call76_v7 : StableHlo.TRef sig ⟨S30000, .i32⟩) (broadcastInDim S30000 ![] bcast_S_S30000),
    StableHlo.TRef.binary (.of main_call76_v4 : StableHlo.TRef sig ⟨S30000, .i32⟩) (.of main_call76_v7 : StableHlo.TRef sig ⟨S30000, .i32⟩) (.of main_call76_v8 : StableHlo.TRef sig ⟨S30000, .i1⟩) (cmpi .slt),
    StableHlo.TRef.nullary (.of main_call76_c_3 : StableHlo.TRef sig ⟨S_, .i32⟩) (constantI S_ 32 0#32),
    StableHlo.TRef.binary (.of main_call76_v2 : StableHlo.TRef sig ⟨S_, .i32⟩) (.of main_call76_c_3 : StableHlo.TRef sig ⟨S_, .i32⟩) (.of main_call76_v9 : StableHlo.TRef sig ⟨S_, .i1⟩) (cmpi .slt),
    StableHlo.TRef.unary (.of main_call76_v9 : StableHlo.TRef sig ⟨S_, .i1⟩) (.of main_call76_v10 : StableHlo.TRef sig ⟨S30000, .i1⟩) (broadcastInDim S30000 ![] bcast_S_S30000),
    StableHlo.TRef.binary (.of main_call76_v8 : StableHlo.TRef sig ⟨S30000, .i1⟩) (.of main_call76_v10 : StableHlo.TRef sig ⟨S30000, .i1⟩) (.of main_call76_v11 : StableHlo.TRef sig ⟨S30000, .i1⟩) (cmpi .ne),
    StableHlo.TRef.binary (.of main_call76_v11 : StableHlo.TRef sig ⟨S30000, .i1⟩) (.of main_call76_v6 : StableHlo.TRef sig ⟨S30000, .i1⟩) (.of main_call76_v12 : StableHlo.TRef sig ⟨S30000, .i1⟩) andi,
    StableHlo.TRef.unary (.of main_call76_v2 : StableHlo.TRef sig ⟨S_, .i32⟩) (.of main_call76_v13 : StableHlo.TRef sig ⟨S30000, .i32⟩) (broadcastInDim S30000 ![] bcast_S_S30000),
    StableHlo.TRef.binary (.of main_call76_v4 : StableHlo.TRef sig ⟨S30000, .i32⟩) (.of main_call76_v13 : StableHlo.TRef sig ⟨S30000, .i32⟩) (.of main_call76_v14 : StableHlo.TRef sig ⟨S30000, .i32⟩) addi,
    StableHlo.TRef.ternary (.of main_call76_v12 : StableHlo.TRef sig ⟨S30000, .i1⟩) (.of main_call76_v14 : StableHlo.TRef sig ⟨S30000, .i32⟩) (.of main_call76_v4 : StableHlo.TRef sig ⟨S30000, .i32⟩) (.of main_v692 : StableHlo.TRef sig ⟨S30000, .i32⟩) select,
    StableHlo.nullary main_c_256 (constantI S_ 32 4294967295#32),
    StableHlo.TRef.unary (.of main_c_256 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S30000, .i32⟩) (broadcastInDim S30000 ![] bcast_S_S30000),
    StableHlo.TRef.ternary (.of main_v690 : StableHlo.TRef sig ⟨S30000, .i1⟩) (.of main_v692 : StableHlo.TRef sig ⟨S30000, .i32⟩) (.of main_call77_v1 : StableHlo.TRef sig ⟨S30000, .i32⟩) (.of main_v693 : StableHlo.TRef sig ⟨S30000, .i32⟩) select,
    StableHlo.nullary main_c_257 (constantI S_ 32 0#32),
    StableHlo.unary main_c_257 main_v694 (broadcastInDim S30000 ![] bcast_S_S30000 : (⟨S_, .i32⟩ : BufTy).Contents (Elt F) → (⟨S30000, .i32⟩ : BufTy).Contents (Elt F)),
    StableHlo.binary main_v684 main_v694 main_v695 (cmpi .sge : (⟨S30000, .i32⟩ : BufTy).Contents (Elt F) → (⟨S30000, .i32⟩ : BufTy).Contents (Elt F) → (⟨S30000, .i1⟩ : BufTy).Contents (Elt F)),
    StableHlo.nullary main_c_258 (constantI S_ 32 512#32),
    StableHlo.TRef.unary (.of main_c_258 : StableHlo.TRef sig ⟨S_, .i32⟩) (.of main_call78_v0 : StableHlo.TRef sig ⟨S_, .i32⟩) id,
    StableHlo.TRef.nullary (.of main_call78_c : StableHlo.TRef sig ⟨S_, .i32⟩) (constantI S_ 32 0#32),
    StableHlo.TRef.binary (.of main_call78_v0 : StableHlo.TRef sig ⟨S_, .i32⟩) (.of main_call78_c : StableHlo.TRef sig ⟨S_, .i32⟩) (.of main_call78_v1 : StableHlo.TRef sig ⟨S_, .i1⟩) (cmpi .eq),
    StableHlo.TRef.nullary (.of main_call78_c_0 : StableHlo.TRef sig ⟨S_, .i32⟩) (constantI S_ 32 1#32),
    StableHlo.TRef.ternary (.of main_call78_v1 : StableHlo.TRef sig ⟨S_, .i1⟩) (.of main_call78_c_0 : StableHlo.TRef sig ⟨S_, .i32⟩) (.of main_call78_v0 : StableHlo.TRef sig ⟨S_, .i32⟩) (.of main_call78_v2 : StableHlo.TRef sig ⟨S_, .i32⟩) select,
    StableHlo.TRef.unary (.of main_call78_v2 : StableHlo.TRef sig ⟨S_, .i32⟩) (.of main_call78_v3 : StableHlo.TRef sig ⟨S30000, .i32⟩) (broadcastInDim S30000 ![] bcast_S_S30000),
    StableHlo.TRef.binary (.of main_v684 : StableHlo.TRef sig ⟨S30000, .i32⟩) (.of main_call78_v3 : StableHlo.TRef sig ⟨S30000, .i32⟩) (.of main_call78_v4 : StableHlo.TRef sig ⟨S30000, .i32⟩) Host.remsi,
    StableHlo.TRef.nullary (.of main_call78_c_1 : StableHlo.TRef sig ⟨S_, .i32⟩) (constantI S_ 32 0#32),
    StableHlo.TRef.unary (.of main_call78_c_1 : StableHlo.TRef sig ⟨S_, .i32⟩) (.of main_call78_v5 : StableHlo.TRef sig ⟨S30000, .i32⟩) (broadcastInDim S30000 ![] bcast_S_S30000),
    StableHlo.TRef.binary (.of main_call78_v4 : StableHlo.TRef sig ⟨S30000, .i32⟩) (.of main_call78_v5 : StableHlo.TRef sig ⟨S30000, .i32⟩) (.of main_call78_v6 : StableHlo.TRef sig ⟨S30000, .i1⟩) (cmpi .ne),
    StableHlo.TRef.nullary (.of main_call78_c_2 : StableHlo.TRef sig ⟨S_, .i32⟩) (constantI S_ 32 0#32),
    StableHlo.TRef.unary (.of main_call78_c_2 : StableHlo.TRef sig ⟨S_, .i32⟩) (.of main_call78_v7 : StableHlo.TRef sig ⟨S30000, .i32⟩) (broadcastInDim S30000 ![] bcast_S_S30000),
    StableHlo.TRef.binary (.of main_call78_v4 : StableHlo.TRef sig ⟨S30000, .i32⟩) (.of main_call78_v7 : StableHlo.TRef sig ⟨S30000, .i32⟩) (.of main_call78_v8 : StableHlo.TRef sig ⟨S30000, .i1⟩) (cmpi .slt),
    StableHlo.TRef.nullary (.of main_call78_c_3 : StableHlo.TRef sig ⟨S_, .i32⟩) (constantI S_ 32 0#32),
    StableHlo.TRef.binary (.of main_call78_v2 : StableHlo.TRef sig ⟨S_, .i32⟩) (.of main_call78_c_3 : StableHlo.TRef sig ⟨S_, .i32⟩) (.of main_call78_v9 : StableHlo.TRef sig ⟨S_, .i1⟩) (cmpi .slt),
    StableHlo.TRef.unary (.of main_call78_v9 : StableHlo.TRef sig ⟨S_, .i1⟩) (.of main_call78_v10 : StableHlo.TRef sig ⟨S30000, .i1⟩) (broadcastInDim S30000 ![] bcast_S_S30000),
    StableHlo.TRef.binary (.of main_call78_v8 : StableHlo.TRef sig ⟨S30000, .i1⟩) (.of main_call78_v10 : StableHlo.TRef sig ⟨S30000, .i1⟩) (.of main_call78_v11 : StableHlo.TRef sig ⟨S30000, .i1⟩) (cmpi .ne),
    StableHlo.TRef.binary (.of main_call78_v11 : StableHlo.TRef sig ⟨S30000, .i1⟩) (.of main_call78_v6 : StableHlo.TRef sig ⟨S30000, .i1⟩) (.of main_call78_v12 : StableHlo.TRef sig ⟨S30000, .i1⟩) andi,
    StableHlo.TRef.unary (.of main_call78_v2 : StableHlo.TRef sig ⟨S_, .i32⟩) (.of main_call78_v13 : StableHlo.TRef sig ⟨S30000, .i32⟩) (broadcastInDim S30000 ![] bcast_S_S30000),
    StableHlo.TRef.binary (.of main_call78_v4 : StableHlo.TRef sig ⟨S30000, .i32⟩) (.of main_call78_v13 : StableHlo.TRef sig ⟨S30000, .i32⟩) (.of main_call78_v14 : StableHlo.TRef sig ⟨S30000, .i32⟩) addi,
    StableHlo.TRef.ternary (.of main_call78_v12 : StableHlo.TRef sig ⟨S30000, .i1⟩) (.of main_call78_v14 : StableHlo.TRef sig ⟨S30000, .i32⟩) (.of main_call78_v4 : StableHlo.TRef sig ⟨S30000, .i32⟩) (.of main_v696 : StableHlo.TRef sig ⟨S30000, .i32⟩) select,
    StableHlo.nullary main_c_259 (constantI S_ 32 4294967295#32),
    StableHlo.TRef.unary (.of main_c_259 : StableHlo.TRef sig ⟨S_, .i32⟩) (.of main_call79_v0 : StableHlo.TRef sig ⟨S_, .i32⟩) id,
    StableHlo.TRef.unary (.of main_call79_v0 : StableHlo.TRef sig ⟨S_, .i32⟩) (.of main_call79_v1 : StableHlo.TRef sig ⟨S30000, .i32⟩) (broadcastInDim S30000 ![] bcast_S_S30000),
    StableHlo.TRef.ternary (.of main_v695 : StableHlo.TRef sig ⟨S30000, .i1⟩) (.of main_v696 : StableHlo.TRef sig ⟨S30000, .i32⟩) (.of main_call79_v1 : StableHlo.TRef sig ⟨S30000, .i32⟩) (.of main_v697 : StableHlo.TRef sig ⟨S30000, .i32⟩) select,
    StableHlo.unary main_v688 main_v698 (broadcastInDim S30000x1 ![0] bcast_S30000_S30000x1_0 : (⟨S30000, .i32⟩ : BufTy).Contents (Elt F) → (⟨S30000x1, .i32⟩ : BufTy).Contents (Elt F)),
    StableHlo.unary main_v693 main_v699 (broadcastInDim S30000x1 ![0] bcast_S30000_S30000x1_0 : (⟨S30000, .i32⟩ : BufTy).Contents (Elt F) → (⟨S30000x1, .i32⟩ : BufTy).Contents (Elt F)),
    StableHlo.unary main_v697 main_v700 (broadcastInDim S30000x1 ![0] bcast_S30000_S30000x1_0 : (⟨S30000, .i32⟩ : BufTy).Contents (Elt F) → (⟨S30000x1, .i32⟩ : BufTy).Contents (Elt F)),
    StableHlo.nary ![main_v698, main_v699, main_v700] main_v701 (fun u => concatenate S30000x3 1 [⟨S30000x1, u 0⟩, ⟨S30000x1, u 1⟩, ⟨S30000x1, u 2⟩] concatenates_S30000x1_S30000x1_S30000x1_S30000x3_d1),
    StableHlo.nullary main_c_260 (constantI S_ 32 3#32),
    StableHlo.unary main_c_260 main_v702 (broadcastInDim S30000x1 ![] bcast_S_S30000x1 : (⟨S_, .i32⟩ : BufTy).Contents (Elt F) → (⟨S30000x1, .i32⟩ : BufTy).Contents (Elt F)),
    StableHlo.binary main_v702 main_v701 main_v703 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- 3 operations: from %704 through %706. -/
abbrev finOps : List (HloOp τ sig (Elt F)) :=
  [ StableHlo.nary ![main_v134, main_v310, main_v486, main_v662] main_v704 (fun u => concatenate S120000x20x5 0 [⟨S30000x20x5, u 0⟩, ⟨S30000x20x5, u 1⟩, ⟨S30000x20x5, u 2⟩, ⟨S30000x20x5, u 3⟩] concatenates_S30000x20x5_S30000x20x5_S30000x20x5_S30000x20x5_S120000x20x5_d0),
    StableHlo.nary ![main_v139, main_v315, main_v491, main_v667] main_v705 (fun u => concatenate S120000 0 [⟨S30000, u 0⟩, ⟨S30000, u 1⟩, ⟨S30000, u 2⟩, ⟨S30000, u 3⟩] concatenates_S30000_S30000_S30000_S30000_S120000_d0),
    StableHlo.nary ![main_v175, main_v351, main_v527, main_v703] main_v706 (fun u => concatenate S120000x4 0 [⟨S30000x4, u 0⟩, ⟨S30000x4, u 1⟩, ⟨S30000x4, u 2⟩, ⟨S30000x4, u 3⟩] concatenates_S30000x4_S30000x4_S30000x4_S30000x4_S120000x4_d0) ]

/-- @main's operations, in order: the stretches one after the other. -/
abbrev ops : List (HloOp τ sig (Elt F)) :=
  hdOps ++ ptsOps0 ++ linOps0 ++ tlOps0 ++ ptsOps1 ++ linOps1 ++ tlOps1 ++ ptsOps2 ++ linOps2 ++ tlOps2 ++ ptsOps3 ++ linOps3 ++ tlOps3 ++ finOps

end Cert.ReferenceIdeal.Hand

end
-- ==== Proof.RefPieces.lean ====
/- The same operations cut finer: one piece per window of the printed @main, per stretch and per call, and per piece the
   three facts that are listed operation by operation: every operation touches references of the core only, determines
   its results, and does not write the program's argument. -/
import proofs.«111982_j16939351015723_2_alg».proof.Proof.Gen.ReferenceIdeal
import Idealize.ShloMosaic.Lib.StableHlo.Run
import proofs.«111982_j16939351015723_2_alg».proof.Proof.RefOps

-- a list of some hundreds of operations, and a tuple of as many facts about it, nest past the default depth
set_option maxRecDepth 16384

noncomputable section

namespace Cert.ReferenceIdeal.Hand

open Cert.ReferenceIdeal.Gen Idealize.ShloMosaic Idealize.SL.Sem

variable {F : FTy → Type} [FloatOps F]

section NotWritten
open Idealize.ShloMosaic.StableHlo
variable {x a b c e y r : Ref sig .tc}
/-- An operation with result buffer y does not write another buffer r. -/
theorem binary_nw (f : a.ty.Contents (Elt F) → b.ty.Contents (Elt F) → y.ty.Contents (Elt F)) (ha hb hy) (h : r ≠ y) : (Proc.devRef .tc r : DevRef τ sig) ∉ (binary (τ := τ) a b y f ha hb hy).writes := by
  rw [binary_writes, Finset.mem_singleton]; exact devRef_ne_of_ne h
/-- An operation with result buffer y does not write another buffer r. -/
theorem nary_nw {n : Nat} (xs : Fin n → Ref sig .tc) (f : ((k : Fin n) → (xs k).ty.Contents (Elt F)) → y.ty.Contents (Elt F)) (hxs hy) (h : r ≠ y) : (Proc.devRef .tc r : DevRef τ sig) ∉ (nary (τ := τ) xs y f hxs hy).writes := by
  rw [nary_writes, Finset.mem_singleton]; exact devRef_ne_of_ne h
/-- An operation with result buffer y does not write another buffer r. -/
theorem nullary_nw (v : y.ty.Contents (Elt F)) (hy) (h : r ≠ y) : (Proc.devRef .tc r : DevRef τ sig) ∉ (nullary (τ := τ) y v hy).writes := by
  rw [nullary_writes, Finset.mem_singleton]; exact devRef_ne_of_ne h
/-- An operation with result buffer y does not write another buffer r. -/
theorem reshape_nw (he hn hx hy) (h : r ≠ y) : (Proc.devRef .tc r : DevRef τ sig) ∉ (reshape (τ := τ) (Val := Elt F) x y he hn hx hy).writes := by
  rw [reshape_writes, Finset.mem_singleton]; exact devRef_ne_of_ne h
/-- An operation with result buffer y does not write another buffer r. -/
theorem ternary_nw (f : c.ty.Contents (Elt F) → a.ty.Contents (Elt F) → b.ty.Contents (Elt F) → y.ty.Contents (Elt F)) (hc ha hb hy) (h : r ≠ y) : (Proc.devRef .tc r : DevRef τ sig) ∉ (ternary (τ := τ) c a b y f hc ha hb hy).writes := by
  rw [ternary_writes, Finset.mem_singleton]; exact devRef_ne_of_ne h
/-- An operation with result buffer y does not write another buffer r. -/
theorem unary_nw (f : x.ty.Contents (Elt F) → y.ty.Contents (Elt F)) (hx hy) (h : r ≠ y) : (Proc.devRef .tc r : DevRef τ sig) ∉ (unary (τ := τ) x y f hx hy).writes := by
  rw [unary_writes, Finset.mem_singleton]; exact devRef_ne_of_ne h
end NotWritten

/-- 3 operations of @main, window 0, hdOps: %cst … %c. -/
abbrev pc0_0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)) ]
theorem pc0_0_sub : (pc0_0 : List (HloOp τ sig (Elt F))).Forall fun op => op.bufs ⊆ StableHlo.tcRefs τ sig :=
  ⟨StableHlo.nullary_bufs_sub .., StableHlo.nullary_bufs_sub .., StableHlo.nullary_bufs_sub ..⟩
theorem pc0_0_fresh : (pc0_0 : List (HloOp τ sig (Elt F))).Forall fun op => op.fresh = ∅ :=
  ⟨rfl, rfl, rfl⟩
theorem pc0_0_nw : (pc0_0 : List (HloOp τ sig (Elt F))).Forall fun op => (Proc.devRef .tc main_arg0 : DevRef τ sig) ∉ op.writes :=
  ⟨nullary_nw _ _ (by decide), nullary_nw _ _ (by decide), nullary_nw _ _ (by decide)⟩

/-- 23 operations of @main, window 0, ptsOps0: %0 … %13. -/
abbrev pc0_1 : List (HloOp τ sig (Elt F)) :=
  [ StableHlo.unary main_arg0 main_v0 ((extractStridedSlice S1x300000x5 ![0, 0, 0] · slices_S4x300000x5_S1x300000x5_0_0_0) : (⟨S4x300000x5, .f32⟩ : BufTy).Contents (Elt F) → (⟨S1x300000x5, .f32⟩ : BufTy).Contents (Elt F)),
    StableHlo.reshape main_v0 main_v1 rfl shapeCasts_S1x300000x5_S300000x5,
    StableHlo.nullary main_c_1 (constantI S_ 32 0#32),
    StableHlo.unary main_c_1 main_v2 (broadcastInDim S1 ![] bcast_S_S1 : (⟨S_, .i32⟩ : BufTy).Contents (Elt F) → (⟨S1, .i32⟩ : BufTy).Contents (Elt F)),
    StableHlo.nullary main_c_2 (constantI S_ 32 0#32),
    StableHlo.unary main_c_2 main_v3 (broadcastInDim S1 ![] bcast_S_S1 : (⟨S_, .i32⟩ : BufTy).Contents (Elt F) → (⟨S1, .i32⟩ : BufTy).Contents (Elt F)),
    StableHlo.binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_3 (constant S_ .f32 0x3F400000#32),
    StableHlo.ternary main_v1 main_v4 main_cst_3 main_v5 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_4 (constantI S_ 32 0#32),
    StableHlo.unary main_c_4 main_v6 (broadcastInDim S1 ![] bcast_S_S1 : (⟨S_, .i32⟩ : BufTy).Contents (Elt F) → (⟨S1, .i32⟩ : BufTy).Contents (Elt F)),
    StableHlo.nullary main_c_5 (constantI S_ 32 1#32),
    StableHlo.unary main_c_5 main_v7 (broadcastInDim S1 ![] bcast_S_S1 : (⟨S_, .i32⟩ : BufTy).Contents (Elt F) → (⟨S1, .i32⟩ : BufTy).Contents (Elt F)),
    StableHlo.binary main_v6 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_6 (constant S_ .f32 0x3E800000#32),
    StableHlo.ternary main_v5 main_v8 main_cst_6 main_v9 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_7 (constantI S_ 32 0#32),
    StableHlo.unary main_c_7 main_v10 (broadcastInDim S1 ![] bcast_S_S1 : (⟨S_, .i32⟩ : BufTy).Contents (Elt F) → (⟨S1, .i32⟩ : BufTy).Contents (Elt F)),
    StableHlo.nullary main_c_8 (constantI S_ 32 2#32),
    StableHlo.unary main_c_8 main_v11 (broadcastInDim S1 ![] bcast_S_S1 : (⟨S_, .i32⟩ : BufTy).Contents (Elt F) → (⟨S1, .i32⟩ : BufTy).Contents (Elt F)),
    StableHlo.binary main_v10 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_9 (constant S_ .f32 0x40000000#32),
    StableHlo.ternary main_v9 main_v12 main_cst_9 main_v13 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]
theorem pc0_1_sub : (pc0_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub ..⟩
theorem pc0_1_fresh : (pc0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pc0_1_nw : (pc0_1 : List (HloOp τ sig (Elt F))).Forall fun op => (Proc.devRef .tc main_arg0 : DevRef τ sig) ∉ op.writes :=
  ⟨unary_nw _ _ _ (by decide), reshape_nw _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide)⟩

/-- 33 operations of @main, window 0, linOps0: %14 … %c_14. -/
abbrev pc0_2 : List (HloOp τ sig (Elt F)) :=
  [ StableHlo.unary main_v13 main_v14 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v15 (broadcastInDim S1x3 ![1] bcast_S3_S1x3_1 : (⟨S3, .f32⟩ : BufTy).Contents (Elt F) → (⟨S1x3, .f32⟩ : BufTy).Contents (Elt F)),
    StableHlo.unary main_v15 main_v16 (broadcastInDim S300000x3 ![0, 1] bcast_S1x3_S300000x3_0_1 : (⟨S1x3, .f32⟩ : BufTy).Contents (Elt F) → (⟨S300000x3, .f32⟩ : BufTy).Contents (Elt F)),
    StableHlo.binary main_v14 main_v16 main_v17 (subf : (⟨S300000x3, .f32⟩ : BufTy).Contents (Elt F) → (⟨S300000x3, .f32⟩ : BufTy).Contents (Elt F) → (⟨S300000x3, .f32⟩ : BufTy).Contents (Elt F)),
    StableHlo.unary main_cst_0 main_v18 (broadcastInDim S1x3 ![1] bcast_S3_S1x3_1 : (⟨S3, .f32⟩ : BufTy).Contents (Elt F) → (⟨S1x3, .f32⟩ : BufTy).Contents (Elt F)),
    StableHlo.unary main_v18 main_v19 (broadcastInDim S300000x3 ![0, 1] bcast_S1x3_S300000x3_0_1 : (⟨S1x3, .f32⟩ : BufTy).Contents (Elt F) → (⟨S300000x3, .f32⟩ : BufTy).Contents (Elt F)),
    StableHlo.binary main_v17 main_v19 main_v20 (Host.divf : (⟨S300000x3, .f32⟩ : BufTy).Contents (Elt F) → (⟨S300000x3, .f32⟩ : BufTy).Contents (Elt F) → (⟨S300000x3, .f32⟩ : BufTy).Contents (Elt F)),
    StableHlo.unary main_v20 main_v21 (Host.floor : (⟨S300000x3, .f32⟩ : BufTy).Contents (Elt F) → (⟨S300000x3, .f32⟩ : BufTy).Contents (Elt F)),
    StableHlo.unary main_v21 main_v22 (fptosi 32 : (⟨S300000x3, .f32⟩ : BufTy).Contents (Elt F) → (⟨S300000x3, .i32⟩ : BufTy).Contents (Elt F)),
    StableHlo.nullary main_c_10 (constantI S_ 32 0#32),
    StableHlo.unary main_c_10 main_v23 (broadcastInDim S300000x3 ![] bcast_S_S300000x3 : (⟨S_, .i32⟩ : BufTy).Contents (Elt F) → (⟨S300000x3, .i32⟩ : BufTy).Contents (Elt F)),
    StableHlo.binary main_v22 main_v23 main_v24 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v25 (broadcastInDim S1x3 ![1] bcast_S3_S1x3_1 : (⟨S3, .i32⟩ : BufTy).Contents (Elt F) → (⟨S1x3, .i32⟩ : BufTy).Contents (Elt F)),
    StableHlo.unary main_v25 main_v26 (broadcastInDim S300000x3 ![0, 1] bcast_S1x3_S300000x3_0_1 : (⟨S1x3, .i32⟩ : BufTy).Contents (Elt F) → (⟨S300000x3, .i32⟩ : BufTy).Contents (Elt F)),
    StableHlo.binary main_v22 main_v26 main_v27 (cmpi .slt : (⟨S300000x3, .i32⟩ : BufTy).Contents (Elt F) → (⟨S300000x3, .i32⟩ : BufTy).Contents (Elt F) → (⟨S300000x3, .i1⟩ : BufTy).Contents (Elt F)),
    StableHlo.binary main_v24 main_v27 main_v28 (andi : (⟨S300000x3, .i1⟩ : BufTy).Contents (Elt F) → (⟨S300000x3, .i1⟩ : BufTy).Contents (Elt F) → (⟨S300000x3, .i1⟩ : BufTy).Contents (Elt F)),
    StableHlo.nullary main_c_11 (constantI S_ 1 1#1),
    StableHlo.binary main_v28 main_c_11 main_v29 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v22 main_v30 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v30 main_v31 rfl shapeCasts_S300000x1_S300000,
    StableHlo.nullary main_c_12 (constantI S_ 32 512#32),
    StableHlo.unary main_c_12 main_v32 (broadcastInDim S300000 ![] bcast_S_S300000 : (⟨S_, .i32⟩ : BufTy).Contents (Elt F) → (⟨S300000, .i32⟩ : BufTy).Contents (Elt F)),
    StableHlo.binary main_v31 main_v32 main_v33 (muli : (⟨S300000, .i32⟩ : BufTy).Contents (Elt F) → (⟨S300000, .i32⟩ : BufTy).Contents (Elt F) → (⟨S300000, .i32⟩ : BufTy).Contents (Elt F)),
    StableHlo.unary main_v22 main_v34 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v34 main_v35 rfl shapeCasts_S300000x1_S300000,
    StableHlo.binary main_v33 main_v35 main_v36 (addi : (⟨S300000, .i32⟩ : BufTy).Contents (Elt F) → (⟨S300000, .i32⟩ : BufTy).Contents (Elt F) → (⟨S300000, .i32⟩ : BufTy).Contents (Elt F)),
    StableHlo.nullary main_c_13 (constantI S_ 32 512#32),
    StableHlo.unary main_c_13 main_v37 (broadcastInDim S300000 ![] bcast_S_S300000 : (⟨S_, .i32⟩ : BufTy).Contents (Elt F) → (⟨S300000, .i32⟩ : BufTy).Contents (Elt F)),
    StableHlo.binary main_v36 main_v37 main_v38 (muli : (⟨S300000, .i32⟩ : BufTy).Contents (Elt F) → (⟨S300000, .i32⟩ : BufTy).Contents (Elt F) → (⟨S300000, .i32⟩ : BufTy).Contents (Elt F)),
    StableHlo.unary main_v22 main_v39 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v39 main_v40 rfl shapeCasts_S300000x1_S300000,
    StableHlo.binary main_v38 main_v40 main_v41 (addi : (⟨S300000, .i32⟩ : BufTy).Contents (Elt F) → (⟨S300000, .i32⟩ : BufTy).Contents (Elt F) → (⟨S300000, .i32⟩ : BufTy).Contents (Elt F)),
    StableHlo.nullary main_c_14 (constantI S_ 32 262144#32) ]
theorem pc0_2_sub : (pc0_2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub ..⟩
theorem pc0_2_fresh : (pc0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc0_2_nw : (pc0_2 : List (HloOp τ sig (Elt F))).Forall fun op => (Proc.devRef .tc main_arg0 : DevRef τ sig) ∉ op.writes :=
  ⟨unary_nw _ _ _ (by decide), unary_nw _ _ _ (by decide), unary_nw _ _ _ (by decide), binary_nw _ _ _ _ (by decide), unary_nw _ _ _ (by decide), unary_nw _ _ _ (by decide), binary_nw _ _ _ _ (by decide), unary_nw _ _ _ (by decide), unary_nw _ _ _ (by decide), nullary_nw _ _ (by decide), unary_nw _ _ _ (by decide), binary_nw _ _ _ _ (by decide), unary_nw _ _ _ (by decide), unary_nw _ _ _ (by decide), binary_nw _ _ _ _ (by decide), binary_nw _ _ _ _ (by decide), nullary_nw _ _ (by decide), binary_nw _ _ _ _ (by decide), unary_nw _ _ _ (by decide), reshape_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide)⟩

/-- 3 operations of @where (main_call0), window 0, linOps0: %42 … %42. -/
abbrev pc0_3 : List (HloOp τ sig (Elt F)) :=
  [ StableHlo.TRef.unary (.of main_c_14 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S300000, .i32⟩) (broadcastInDim S300000 ![] bcast_S_S300000),
    StableHlo.TRef.ternary (.of main_v29 : StableHlo.TRef sig ⟨S300000, .i1⟩) (.of main_v41 : StableHlo.TRef sig ⟨S300000, .i32⟩) (.of main_call0_v1 : StableHlo.TRef sig ⟨S300000, .i32⟩) (.of main_v42 : StableHlo.TRef sig ⟨S300000, .i32⟩) select ]
theorem pc0_3_sub : (pc0_3 : List (HloOp τ sig (Elt F))).Forall fun op => op.bufs ⊆ StableHlo.tcRefs τ sig :=
  ⟨StableHlo.unary_bufs_sub .., StableHlo.unary_bufs_sub .., StableHlo.ternary_bufs_sub ..⟩
theorem pc0_3_fresh : (pc0_3 : List (HloOp τ sig (Elt F))).Forall fun op => op.fresh = ∅ :=
  ⟨rfl, rfl, rfl⟩
theorem pc0_3_nw : (pc0_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 24 operations of @main, window 1, tlOps0: %43 … %61. -/
abbrev pc1_0 : List (HloOp τ sig (Elt F)) :=
  [ StableHlo.nullary main_v43 (iotaInDim S300000 32 0),
    StableHlo.nullary main_c_15 (constantI S_ 32 300000#32),
    StableHlo.unary main_c_15 main_v44 (broadcastInDim S262145 ![] bcast_S_S262145 : (⟨S_, .i32⟩ : BufTy).Contents (Elt F) → (⟨S262145, .i32⟩ : BufTy).Contents (Elt F)),
    StableHlo.nullary main_c_16 (constantI S_ 32 0#32),
    StableHlo.unary main_c_16 main_v45 (broadcastInDim S300000 ![] bcast_S_S300000 : (⟨S_, .i32⟩ : BufTy).Contents (Elt F) → (⟨S300000, .i32⟩ : BufTy).Contents (Elt F)),
    StableHlo.binary main_v42 main_v45 main_v46 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 262145#32),
    StableHlo.unary main_c_17 main_v47 (broadcastInDim S300000 ![] bcast_S_S300000 : (⟨S_, .i32⟩ : BufTy).Contents (Elt F) → (⟨S300000, .i32⟩ : BufTy).Contents (Elt F)),
    StableHlo.binary main_v42 main_v47 main_v48 (addi : (⟨S300000, .i32⟩ : BufTy).Contents (Elt F) → (⟨S300000, .i32⟩ : BufTy).Contents (Elt F) → (⟨S300000, .i32⟩ : BufTy).Contents (Elt F)),
    StableHlo.ternary main_v46 main_v48 main_v42 main_v49 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v49 main_v50 (broadcastInDim S300000x1 ![0] bcast_S300000_S300000x1_0 : (⟨S300000, .i32⟩ : BufTy).Contents (Elt F) → (⟨S300000x1, .i32⟩ : BufTy).Contents (Elt F)),
    StableHlo.ternary main_v44 main_v50 main_v43 main_v51 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_18 (constantI S_ 32 0#32),
    StableHlo.unary main_c_18 main_v52 (broadcastInDim S300000 ![] bcast_S_S300000 : (⟨S_, .i32⟩ : BufTy).Contents (Elt F) → (⟨S300000, .i32⟩ : BufTy).Contents (Elt F)),
    StableHlo.binary main_v42 main_v52 main_v53 (cmpi .slt : (⟨S300000, .i32⟩ : BufTy).Contents (Elt F) → (⟨S300000, .i32⟩ : BufTy).Contents (Elt F) → (⟨S300000, .i1⟩ : BufTy).Contents (Elt F)),
    StableHlo.nullary main_c_19 (constantI S_ 32 262145#32),
    StableHlo.unary main_c_19 main_v54 (broadcastInDim S300000 ![] bcast_S_S300000 : (⟨S_, .i32⟩ : BufTy).Contents (Elt F) → (⟨S300000, .i32⟩ : BufTy).Contents (Elt F)),
    StableHlo.binary main_v42 main_v54 main_v55 (addi : (⟨S300000, .i32⟩ : BufTy).Contents (Elt F) → (⟨S300000, .i32⟩ : BufTy).Contents (Elt F) → (⟨S300000, .i32⟩ : BufTy).Contents (Elt F)),
    StableHlo.ternary main_v53 main_v55 main_v42 main_v56 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v56 main_v57 (broadcastInDim S300000x1 ![0] bcast_S300000_S300000x1_0 : (⟨S300000, .i32⟩ : BufTy).Contents (Elt F) → (⟨S300000x1, .i32⟩ : BufTy).Contents (Elt F)),
    StableHlo.binary main_v51 main_v57 main_v58 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v58 main_v43 main_v59 (cmpi .eq : (⟨S300000, .i32⟩ : BufTy).Contents (Elt F) → (⟨S300000, .i32⟩ : BufTy).Contents (Elt F) → (⟨S300000, .i1⟩ : BufTy).Contents (Elt F)),
    StableHlo.binary main_v29 main_v59 main_v60 (andi : (⟨S300000, .i1⟩ : BufTy).Contents (Elt F) → (⟨S300000, .i1⟩ : BufTy).Contents (Elt F) → (⟨S300000, .i1⟩ : BufTy).Contents (Elt F)),
    StableHlo.unary main_v60 main_v61 ((extui 32 · natLt_1_32) : (⟨S300000, .i1⟩ : BufTy).Contents (Elt F) → (⟨S300000, .i32⟩ : BufTy).Contents (Elt F)) ]
theorem pc1_0_sub : (pc1_0 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩
theorem pc1_0_fresh : (pc1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem pc1_0_nw : (pc1_0 : List (HloOp τ sig (Elt F))).Forall fun op => (Proc.devRef .tc main_arg0 : DevRef τ sig) ∉ op.writes :=
  ⟨nullary_nw _ _ (by decide), nullary_nw _ _ (by decide), unary_nw _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), binary_nw _ _ _ _ (by decide), binary_nw _ _ _ _ (by decide), unary_nw _ _ _ (by decide)⟩

/-- 3 operations of @cumsum (main_call1), window 1, tlOps0: %62 … %62. -/
abbrev pc1_1 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v61 : StableHlo.TRef sig ⟨S300000, .i32⟩) (.of main_call1_call0_v0 : StableHlo.TRef sig ⟨S_, .i32⟩) (.of main_v62 : StableHlo.TRef sig ⟨S300000, .i32⟩) (fun x v => Host.reduceWindow IntOp.addi ![300000] ![1] ![299999] ![0] x v reduceWindows_S300000_S300000_w300000s1p299999_0 h_S_) ]
theorem pc1_1_sub : (pc1_1 : List (HloOp τ sig (Elt F))).Forall fun op => op.bufs ⊆ StableHlo.tcRefs τ sig :=
  ⟨StableHlo.nullary_bufs_sub .., StableHlo.unary_bufs_sub .., StableHlo.binary_bufs_sub ..⟩
theorem pc1_1_fresh : (pc1_1 : List (HloOp τ sig (Elt F))).Forall fun op => op.fresh = ∅ :=
  ⟨rfl, rfl, rfl⟩
theorem pc1_1_nw : (pc1_1 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 6 operations of @main, window 1, tlOps0: %c_20 … %c_22. -/
abbrev pc1_2 : List (HloOp τ sig (Elt F)) :=
  [ StableHlo.nullary main_c_20 (constantI S_ 32 1#32),
    StableHlo.unary main_c_20 main_v63 (broadcastInDim S300000 ![] bcast_S_S300000 : (⟨S_, .i32⟩ : BufTy).Contents (Elt F) → (⟨S300000, .i32⟩ : BufTy).Contents (Elt F)),
    StableHlo.binary main_v62 main_v63 main_v64 (subi : (⟨S300000, .i32⟩ : BufTy).Contents (Elt F) → (⟨S300000, .i32⟩ : BufTy).Contents (Elt F) → (⟨S300000, .i32⟩ : BufTy).Contents (Elt F)),
    StableHlo.nullary main_c_21 (constantI S_ 32 30000#32),
    StableHlo.unary main_c_21 main_v65 (broadcastInDim S262145 ![] bcast_S_S262145 : (⟨S_, .i32⟩ : BufTy).Contents (Elt F) → (⟨S262145, .i32⟩ : BufTy).Contents (Elt F)),
    StableHlo.nullary main_c_22 (constantI S_ 32 262144#32) ]
theorem pc1_2_sub : (pc1_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub ..⟩
theorem pc1_2_fresh : (pc1_2 : List (HloOp τ sig (Elt F))).Forall fun op => op.fresh = ∅ :=
  ⟨rfl, rfl, rfl, rfl, rfl, rfl⟩
theorem pc1_2_nw : (pc1_2 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), nullary_nw _ _ (by decide)⟩

/-- 3 operations of @where (main_call2), window 1, tlOps0: %66 … %66. -/
abbrev pc1_3 : List (HloOp τ sig (Elt F)) :=
  [ StableHlo.TRef.unary (.of main_c_22 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S300000, .i32⟩) (broadcastInDim S300000 ![] bcast_S_S300000),
    StableHlo.TRef.ternary (.of main_v60 : StableHlo.TRef sig ⟨S300000, .i1⟩) (.of main_v42 : StableHlo.TRef sig ⟨S300000, .i32⟩) (.of main_call2_v1 : StableHlo.TRef sig ⟨S300000, .i32⟩) (.of main_v66 : StableHlo.TRef sig ⟨S300000, .i32⟩) select ]
theorem pc1_3_sub : (pc1_3 : List (HloOp τ sig (Elt F))).Forall fun op => op.bufs ⊆ StableHlo.tcRefs τ sig :=
  ⟨StableHlo.unary_bufs_sub .., StableHlo.unary_bufs_sub .., StableHlo.ternary_bufs_sub ..⟩
theorem pc1_3_fresh : (pc1_3 : List (HloOp τ sig (Elt F))).Forall fun op => op.fresh = ∅ :=
  ⟨rfl, rfl, rfl⟩
theorem pc1_3_nw : (pc1_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 1, tlOps0: %c_23 … %c_24. -/
abbrev pc1_4 : List (HloOp τ sig (Elt F)) :=
  [ StableHlo.nullary main_c_23 (constantI S_ 32 30000#32),
    StableHlo.unary main_c_23 main_v67 (broadcastInDim S300000 ![] bcast_S_S300000 : (⟨S_, .i32⟩ : BufTy).Contents (Elt F) → (⟨S300000, .i32⟩ : BufTy).Contents (Elt F)),
    StableHlo.binary main_v64 main_v67 main_v68 (minsi : (⟨S300000, .i32⟩ : BufTy).Contents (Elt F) → (⟨S300000, .i32⟩ : BufTy).Contents (Elt F) → (⟨S300000, .i32⟩ : BufTy).Contents (Elt F)),
    StableHlo.nullary main_c_24 (constantI S_ 32 30000#32) ]
theorem pc1_4_sub : (pc1_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc1_4_fresh : (pc1_4 : List (HloOp τ sig (Elt F))).Forall fun op => op.fresh = ∅ :=
  ⟨rfl, rfl, rfl, rfl⟩
theorem pc1_4_nw : (pc1_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 3 operations of @where (main_call3), window 1, tlOps0: %69 … %69. -/
abbrev pc1_5 : List (HloOp τ sig (Elt F)) :=
  [ StableHlo.TRef.unary (.of main_c_24 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S300000, .i32⟩) (broadcastInDim S300000 ![] bcast_S_S300000),
    StableHlo.TRef.ternary (.of main_v60 : StableHlo.TRef sig ⟨S300000, .i1⟩) (.of main_v68 : StableHlo.TRef sig ⟨S300000, .i32⟩) (.of main_call3_v1 : StableHlo.TRef sig ⟨S300000, .i32⟩) (.of main_v69 : StableHlo.TRef sig ⟨S300000, .i32⟩) select ]
theorem pc1_5_sub : (pc1_5 : List (HloOp τ sig (Elt F))).Forall fun op => op.bufs ⊆ StableHlo.tcRefs τ sig :=
  ⟨StableHlo.unary_bufs_sub .., StableHlo.unary_bufs_sub .., StableHlo.ternary_bufs_sub ..⟩
theorem pc1_5_fresh : (pc1_5 : List (HloOp τ sig (Elt F))).Forall fun op => op.fresh = ∅ :=
  ⟨rfl, rfl, rfl⟩
theorem pc1_5_nw : (pc1_5 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 19 operations of @main, window 1, tlOps0: %c_25 … %c_29. -/
abbrev pc1_6 : List (HloOp τ sig (Elt F)) :=
  [ StableHlo.nullary main_c_25 (constantI S_ 32 0#32),
    StableHlo.unary main_c_25 main_v70 (broadcastInDim S300000 ![] bcast_S_S300000 : (⟨S_, .i32⟩ : BufTy).Contents (Elt F) → (⟨S300000, .i32⟩ : BufTy).Contents (Elt F)),
    StableHlo.binary main_v66 main_v70 main_v71 (cmpi .slt : (⟨S300000, .i32⟩ : BufTy).Contents (Elt F) → (⟨S300000, .i32⟩ : BufTy).Contents (Elt F) → (⟨S300000, .i1⟩ : BufTy).Contents (Elt F)),
    StableHlo.nullary main_c_26 (constantI S_ 32 262145#32),
    StableHlo.unary main_c_26 main_v72 (broadcastInDim S300000 ![] bcast_S_S300000 : (⟨S_, .i32⟩ : BufTy).Contents (Elt F) → (⟨S300000, .i32⟩ : BufTy).Contents (Elt F)),
    StableHlo.binary main_v66 main_v72 main_v73 (addi : (⟨S300000, .i32⟩ : BufTy).Contents (Elt F) → (⟨S300000, .i32⟩ : BufTy).Contents (Elt F) → (⟨S300000, .i32⟩ : BufTy).Contents (Elt F)),
    StableHlo.ternary main_v71 main_v73 main_v66 main_v74 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v74 main_v75 (broadcastInDim S300000x1 ![0] bcast_S300000_S300000x1_0 : (⟨S300000, .i32⟩ : BufTy).Contents (Elt F) → (⟨S300000x1, .i32⟩ : BufTy).Contents (Elt F)),
    StableHlo.ternary main_v65 main_v75 main_v69 main_v76 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_27 (constantI S_ 32 0#32),
    StableHlo.unary main_c_27 main_v77 (broadcastInDim S300000 ![] bcast_S_S300000 : (⟨S_, .i32⟩ : BufTy).Contents (Elt F) → (⟨S300000, .i32⟩ : BufTy).Contents (Elt F)),
    StableHlo.binary main_v42 main_v77 main_v78 (cmpi .slt : (⟨S300000, .i32⟩ : BufTy).Contents (Elt F) → (⟨S300000, .i32⟩ : BufTy).Contents (Elt F) → (⟨S300000, .i1⟩ : BufTy).Contents (Elt F)),
    StableHlo.nullary main_c_28 (constantI S_ 32 262145#32),
    StableHlo.unary main_c_28 main_v79 (broadcastInDim S300000 ![] bcast_S_S300000 : (⟨S_, .i32⟩ : BufTy).Contents (Elt F) → (⟨S300000, .i32⟩ : BufTy).Contents (Elt F)),
    StableHlo.binary main_v42 main_v79 main_v80 (addi : (⟨S300000, .i32⟩ : BufTy).Contents (Elt F) → (⟨S300000, .i32⟩ : BufTy).Contents (Elt F) → (⟨S300000, .i32⟩ : BufTy).Contents (Elt F)),
    StableHlo.ternary main_v78 main_v80 main_v42 main_v81 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v81 main_v82 (broadcastInDim S300000x1 ![0] bcast_S300000_S300000x1_0 : (⟨S300000, .i32⟩ : BufTy).Contents (Elt F) → (⟨S300000x1, .i32⟩ : BufTy).Contents (Elt F)),
    StableHlo.binary main_v76 main_v82 main_v83 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_29 (constantI S_ 32 30000#32) ]
theorem pc1_6_sub : (pc1_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem pc1_6_fresh : (pc1_6 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pc1_6_nw : (pc1_6 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide)⟩

/-- 3 operations of @where (main_call4), window 1, tlOps0: %84 … %84. -/
abbrev pc1_7 : List (HloOp τ sig (Elt F)) :=
  [ StableHlo.TRef.unary (.of main_c_29 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S300000, .i32⟩) (broadcastInDim S300000 ![] bcast_S_S300000),
    StableHlo.TRef.ternary (.of main_v29 : StableHlo.TRef sig ⟨S300000, .i1⟩) (.of main_v83 : StableHlo.TRef sig ⟨S300000, .i32⟩) (.of main_call4_v1 : StableHlo.TRef sig ⟨S300000, .i32⟩) (.of main_v84 : StableHlo.TRef sig ⟨S300000, .i32⟩) select ]
theorem pc1_7_sub : (pc1_7 : List (HloOp τ sig (Elt F))).Forall fun op => op.bufs ⊆ StableHlo.tcRefs τ sig :=
  ⟨StableHlo.unary_bufs_sub .., StableHlo.unary_bufs_sub .., StableHlo.ternary_bufs_sub ..⟩
theorem pc1_7_fresh : (pc1_7 : List (HloOp τ sig (Elt F))).Forall fun op => op.fresh = ∅ :=
  ⟨rfl, rfl, rfl⟩
theorem pc1_7_nw : (pc1_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @argsort (main_call5), window 1, tlOps0: %85 … %85. -/
abbrev pc1_8 : List (HloOp τ sig (Elt F)) :=
  [ StableHlo.TRef.nullary (.of main_call5_v0 : StableHlo.TRef sig ⟨S300000, .i32⟩) (iotaInDim S300000 32 0),
    StableHlo.TRef.binary (.of main_v42 : StableHlo.TRef sig ⟨S300000, .i32⟩) (.of main_call5_v0 : StableHlo.TRef sig ⟨S300000, .i32⟩) (.of main_call5_v1_0 : StableHlo.TRef sig ⟨S300000, .i32⟩) (fun x y => (Host.sort2 S300000 0 comparator_i32_i32_d0 x y).1),
    StableHlo.TRef.binary (.of main_v42 : StableHlo.TRef sig ⟨S300000, .i32⟩) (.of main_call5_v0 : StableHlo.TRef sig ⟨S300000, .i32⟩) (.of main_v85 : StableHlo.TRef sig ⟨S300000, .i32⟩) (fun x y => (Host.sort2 S300000 0 comparator_i32_i32_d0 x y).2) ]
theorem pc1_8_sub : (pc1_8 : List (HloOp τ sig (Elt F))).Forall fun op => op.bufs ⊆ StableHlo.tcRefs τ sig :=
  ⟨StableHlo.nullary_bufs_sub .., StableHlo.binary_bufs_sub .., StableHlo.binary_bufs_sub ..⟩
theorem pc1_8_fresh : (pc1_8 : List (HloOp τ sig (Elt F))).Forall fun op => op.fresh = ∅ :=
  ⟨rfl, rfl, rfl⟩
theorem pc1_8_nw : (pc1_8 : List (HloOp τ sig (Elt F))).Forall fun op => (Proc.devRef .tc main_arg0 : DevRef τ sig) ∉ op.writes :=
  ⟨nullary_nw _ _ (by decide), binary_nw _ _ _ _ (by decide), binary_nw _ _ _ _ (by decide)⟩

/-- 2 operations of @main, window 1, tlOps0: %c_30 … %86. -/
abbrev pc1_9 : List (HloOp τ sig (Elt F)) :=
  [ StableHlo.nullary main_c_30 (constantI S_ 32 0#32),
    StableHlo.unary main_c_30 main_v86 (broadcastInDim S300000 ![] bcast_S_S300000 : (⟨S_, .i32⟩ : BufTy).Contents (Elt F) → (⟨S300000, .i32⟩ : BufTy).Contents (Elt F)) ]
theorem pc1_9_sub : (pc1_9 : List (HloOp τ sig (Elt F))).Forall fun op => op.bufs ⊆ StableHlo.tcRefs τ sig :=
  ⟨StableHlo.nullary_bufs_sub .., StableHlo.unary_bufs_sub ..⟩
theorem pc1_9_fresh : (pc1_9 : List (HloOp τ sig (Elt F))).Forall fun op => op.fresh = ∅ :=
  ⟨rfl, rfl⟩
theorem pc1_9_nw : (pc1_9 : List (HloOp τ sig (Elt F))).Forall fun op => (Proc.devRef .tc main_arg0 : DevRef τ sig) ∉ op.writes :=
  ⟨nullary_nw _ _ (by decide), unary_nw _ _ _ (by decide)⟩

/-- 14 operations of @main, window 2, tlOps0: %87 … %c_33. -/
abbrev pc2_0 : List (HloOp τ sig (Elt F)) :=
  [ StableHlo.binary main_v85 main_v86 main_v87 (cmpi .slt : (⟨S300000, .i32⟩ : BufTy).Contents (Elt F) → (⟨S300000, .i32⟩ : BufTy).Contents (Elt F) → (⟨S300000, .i1⟩ : BufTy).Contents (Elt F)),
    StableHlo.nullary main_c_31 (constantI S_ 32 300000#32),
    StableHlo.unary main_c_31 main_v88 (broadcastInDim S300000 ![] bcast_S_S300000 : (⟨S_, .i32⟩ : BufTy).Contents (Elt F) → (⟨S300000, .i32⟩ : BufTy).Contents (Elt F)),
    StableHlo.binary main_v85 main_v88 main_v89 (addi : (⟨S300000, .i32⟩ : BufTy).Contents (Elt F) → (⟨S300000, .i32⟩ : BufTy).Contents (Elt F) → (⟨S300000, .i32⟩ : BufTy).Contents (Elt F)),
    StableHlo.ternary main_v87 main_v89 main_v85 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v90 main_v91 (broadcastInDim S300000x1 ![0] bcast_S300000_S300000x1_0 : (⟨S300000, .i32⟩ : BufTy).Contents (Elt F) → (⟨S300000x1, .i32⟩ : BufTy).Contents (Elt F)),
    StableHlo.binary main_v42 main_v91 main_v92 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_32 (constantI S_ 1 1#1),
    StableHlo.unary main_c_32 main_v93 (broadcastInDim S1 ![] bcast_S_S1 : (⟨S_, .i1⟩ : BufTy).Contents (Elt F) → (⟨S1, .i1⟩ : BufTy).Contents (Elt F)),
    StableHlo.unary main_v92 main_v94 ((extractStridedSlice S299999 ![1] · slices_S300000_S299999_1) : (⟨S300000, .i32⟩ : BufTy).Contents (Elt F) → (⟨S299999, .i32⟩ : BufTy).Contents (Elt F)),
    StableHlo.unary main_v92 main_v95 ((extractStridedSlice S299999 ![0] · slices_S300000_S299999_0) : (⟨S300000, .i32⟩ : BufTy).Contents (Elt F) → (⟨S299999, .i32⟩ : BufTy).Contents (Elt F)),
    StableHlo.binary main_v94 main_v95 main_v96 (cmpi .ne : (⟨S299999, .i32⟩ : BufTy).Contents (Elt F) → (⟨S299999, .i32⟩ : BufTy).Contents (Elt F) → (⟨S299999, .i1⟩ : BufTy).Contents (Elt F)),
    StableHlo.binary main_v93 main_v96 main_v97 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_33 (constantI S_ 32 0#32) ]
theorem pc2_0_sub : (pc2_0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩
theorem pc2_0_fresh : (pc2_0 : List (HloOp τ sig (Elt F))).Forall fun op => op.fresh = ∅ :=
  ⟨rfl, rfl, rfl, rfl, rfl, rfl, rfl, rfl, rfl, rfl, rfl, rfl, rfl, rfl⟩
theorem pc2_0_nw : (pc2_0 : List (HloOp τ sig (Elt F))).Forall fun op => (Proc.devRef .tc main_arg0 : DevRef τ sig) ∉ op.writes :=
  ⟨binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide), unary_nw _ _ _ (by decide), unary_nw _ _ _ (by decide), unary_nw _ _ _ (by decide), binary_nw _ _ _ _ (by decide), binary_nw _ _ _ _ (by decide), nullary_nw _ _ (by decide)⟩

/-- 3 operations of @where (main_call6), window 2, tlOps0: %98 … %98. -/
abbrev pc2_1 : List (HloOp τ sig (Elt F)) :=
  [ StableHlo.TRef.unary (.of main_c_33 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S300000, .i32⟩) (broadcastInDim S300000 ![] bcast_S_S300000),
    StableHlo.TRef.ternary (.of main_v97 : StableHlo.TRef sig ⟨S300000, .i1⟩) (.of main_v43 : StableHlo.TRef sig ⟨S300000, .i32⟩) (.of main_call6_v1 : StableHlo.TRef sig ⟨S300000, .i32⟩) (.of main_v98 : StableHlo.TRef sig ⟨S300000, .i32⟩) select ]
theorem pc2_1_sub : (pc2_1 : List (HloOp τ sig (Elt F))).Forall fun op => op.bufs ⊆ StableHlo.tcRefs τ sig :=
  ⟨StableHlo.unary_bufs_sub .., StableHlo.unary_bufs_sub .., StableHlo.ternary_bufs_sub ..⟩
theorem pc2_1_fresh : (pc2_1 : List (HloOp τ sig (Elt F))).Forall fun op => op.fresh = ∅ :=
  ⟨rfl, rfl, rfl⟩
theorem pc2_1_nw : (pc2_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @cummax (main_call7), window 2, tlOps0: %99 … %99. -/
abbrev pc2_2 : List (HloOp τ sig (Elt F)) :=
  [ StableHlo.TRef.nullary (.of main_call7_c : StableHlo.TRef sig ⟨S_, .i32⟩) (constantI S_ 32 2147483648#32),
    StableHlo.TRef.unary (.of main_call7_c : StableHlo.TRef sig ⟨S_, .i32⟩) (.of main_call7_v0 : StableHlo.TRef sig ⟨S_, .i32⟩) (broadcastInDim S_ ![] bcast_S_S_),
    StableHlo.TRef.binary (.of main_v98 : StableHlo.TRef sig ⟨S300000, .i32⟩) (.of main_call7_v0 : StableHlo.TRef sig ⟨S_, .i32⟩) (.of main_v99 : StableHlo.TRef sig ⟨S300000, .i32⟩) (fun x v => Host.reduceWindow IntOp.maxsi ![300000] ![1] ![299999] ![0] x v reduceWindows_S300000_S300000_w300000s1p299999_0 h_S_) ]
theorem pc2_2_sub : (pc2_2 : List (HloOp τ sig (Elt F))).Forall fun op => op.bufs ⊆ StableHlo.tcRefs τ sig :=
  ⟨StableHlo.nullary_bufs_sub .., StableHlo.unary_bufs_sub .., StableHlo.binary_bufs_sub ..⟩
theorem pc2_2_fresh : (pc2_2 : List (HloOp τ sig (Elt F))).Forall fun op => op.fresh = ∅ :=
  ⟨rfl, rfl, rfl⟩
theorem pc2_2_nw : (pc2_2 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 21 operations of @main, window 2, tlOps0: %c_34 … %c_39. -/
abbrev pc2_3 : List (HloOp τ sig (Elt F)) :=
  [ StableHlo.nullary main_c_34 (constantI S_ 32 0#32),
    StableHlo.unary main_c_34 main_v100 (broadcastInDim S300000 ![] bcast_S_S300000 : (⟨S_, .i32⟩ : BufTy).Contents (Elt F) → (⟨S300000, .i32⟩ : BufTy).Contents (Elt F)),
    StableHlo.binary main_v43 main_v99 main_v101 (subi : (⟨S300000, .i32⟩ : BufTy).Contents (Elt F) → (⟨S300000, .i32⟩ : BufTy).Contents (Elt F) → (⟨S300000, .i32⟩ : BufTy).Contents (Elt F)),
    StableHlo.nullary main_c_35 (constantI S_ 32 0#32),
    StableHlo.unary main_c_35 main_v102 (broadcastInDim S300000 ![] bcast_S_S300000 : (⟨S_, .i32⟩ : BufTy).Contents (Elt F) → (⟨S300000, .i32⟩ : BufTy).Contents (Elt F)),
    StableHlo.binary main_v85 main_v102 main_v103 (cmpi .slt : (⟨S300000, .i32⟩ : BufTy).Contents (Elt F) → (⟨S300000, .i32⟩ : BufTy).Contents (Elt F) → (⟨S300000, .i1⟩ : BufTy).Contents (Elt F)),
    StableHlo.nullary main_c_36 (constantI S_ 32 300000#32),
    StableHlo.unary main_c_36 main_v104 (broadcastInDim S300000 ![] bcast_S_S300000 : (⟨S_, .i32⟩ : BufTy).Contents (Elt F) → (⟨S300000, .i32⟩ : BufTy).Contents (Elt F)),
    StableHlo.binary main_v85 main_v104 main_v105 (addi : (⟨S300000, .i32⟩ : BufTy).Contents (Elt F) → (⟨S300000, .i32⟩ : BufTy).Contents (Elt F) → (⟨S300000, .i32⟩ : BufTy).Contents (Elt F)),
    StableHlo.ternary main_v103 main_v105 main_v85 main_v106 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v106 main_v107 (broadcastInDim S300000x1 ![0] bcast_S300000_S300000x1_0 : (⟨S300000, .i32⟩ : BufTy).Contents (Elt F) → (⟨S300000x1, .i32⟩ : BufTy).Contents (Elt F)),
    StableHlo.ternary main_v100 main_v107 main_v101 main_v108 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_37 (constantI S_ 32 30000#32),
    StableHlo.unary main_c_37 main_v109 (broadcastInDim S300000 ![] bcast_S_S300000 : (⟨S_, .i32⟩ : BufTy).Contents (Elt F) → (⟨S300000, .i32⟩ : BufTy).Contents (Elt F)),
    StableHlo.binary main_v84 main_v109 main_v110 (cmpi .slt : (⟨S300000, .i32⟩ : BufTy).Contents (Elt F) → (⟨S300000, .i32⟩ : BufTy).Contents (Elt F) → (⟨S300000, .i1⟩ : BufTy).Contents (Elt F)),
    StableHlo.binary main_v29 main_v110 main_v111 (andi : (⟨S300000, .i1⟩ : BufTy).Contents (Elt F) → (⟨S300000, .i1⟩ : BufTy).Contents (Elt F) → (⟨S300000, .i1⟩ : BufTy).Contents (Elt F)),
    StableHlo.nullary main_c_38 (constantI S_ 32 20#32),
    StableHlo.unary main_c_38 main_v112 (broadcastInDim S300000 ![] bcast_S_S300000 : (⟨S_, .i32⟩ : BufTy).Contents (Elt F) → (⟨S300000, .i32⟩ : BufTy).Contents (Elt F)),
    StableHlo.binary main_v108 main_v112 main_v113 (cmpi .slt : (⟨S300000, .i32⟩ : BufTy).Contents (Elt F) → (⟨S300000, .i32⟩ : BufTy).Contents (Elt F) → (⟨S300000, .i1⟩ : BufTy).Contents (Elt F)),
    StableHlo.binary main_v111 main_v113 main_v114 (andi : (⟨S300000, .i1⟩ : BufTy).Contents (Elt F) → (⟨S300000, .i1⟩ : BufTy).Contents (Elt F) → (⟨S300000, .i1⟩ : BufTy).Contents (Elt F)),
    StableHlo.nullary main_c_39 (constantI S_ 32 30000#32) ]
theorem pc2_3_sub : (pc2_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem pc2_3_fresh : (pc2_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc2_3_nw : (pc2_3 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), binary_nw _ _ _ _ (by decide), nullary_nw _ _ (by decide)⟩

/-- 3 operations of @where (main_call8), window 2, tlOps0: %115 … %115. -/
abbrev pc2_4 : List (HloOp τ sig (Elt F)) :=
  [ StableHlo.TRef.unary (.of main_c_39 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S300000, .i32⟩) (broadcastInDim S300000 ![] bcast_S_S300000),
    StableHlo.TRef.ternary (.of main_v114 : StableHlo.TRef sig ⟨S300000, .i1⟩) (.of main_v84 : StableHlo.TRef sig ⟨S300000, .i32⟩) (.of main_call8_v1 : StableHlo.TRef sig ⟨S300000, .i32⟩) (.of main_v115 : StableHlo.TRef sig ⟨S300000, .i32⟩) select ]
theorem pc2_4_sub : (pc2_4 : List (HloOp τ sig (Elt F))).Forall fun op => op.bufs ⊆ StableHlo.tcRefs τ sig :=
  ⟨StableHlo.unary_bufs_sub .., StableHlo.unary_bufs_sub .., StableHlo.ternary_bufs_sub ..⟩
theorem pc2_4_fresh : (pc2_4 : List (HloOp τ sig (Elt F))).Forall fun op => op.fresh = ∅ :=
  ⟨rfl, rfl, rfl⟩
theorem pc2_4_nw : (pc2_4 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 1 operations of @main, window 2, tlOps0: %c_40 … %c_40. -/
abbrev pc2_5 : List (HloOp τ sig (Elt F)) :=
  [ StableHlo.nullary main_c_40 (constantI S_ 32 0#32) ]
theorem pc2_5_sub : (pc2_5 : List (HloOp τ sig (Elt F))).Forall fun op => op.bufs ⊆ StableHlo.tcRefs τ sig :=
  StableHlo.nullary_bufs_sub ..
theorem pc2_5_fresh : (pc2_5 : List (HloOp τ sig (Elt F))).Forall fun op => op.fresh = ∅ :=
  rfl
theorem pc2_5_nw : (pc2_5 : List (HloOp τ sig (Elt F))).Forall fun op => (Proc.devRef .tc main_arg0 : DevRef τ sig) ∉ op.writes :=
  nullary_nw _ _ (by decide)

/-- 3 operations of @where (main_call9), window 2, tlOps0: %116 … %116. -/
abbrev pc2_6 : List (HloOp τ sig (Elt F)) :=
  [ StableHlo.TRef.unary (.of main_c_40 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S300000, .i32⟩) (broadcastInDim S300000 ![] bcast_S_S300000),
    StableHlo.TRef.ternary (.of main_v114 : StableHlo.TRef sig ⟨S300000, .i1⟩) (.of main_v108 : StableHlo.TRef sig ⟨S300000, .i32⟩) (.of main_call9_v1 : StableHlo.TRef sig ⟨S300000, .i32⟩) (.of main_v116 : StableHlo.TRef sig ⟨S300000, .i32⟩) select ]
theorem pc2_6_sub : (pc2_6 : List (HloOp τ sig (Elt F))).Forall fun op => op.bufs ⊆ StableHlo.tcRefs τ sig :=
  ⟨StableHlo.unary_bufs_sub .., StableHlo.unary_bufs_sub .., StableHlo.ternary_bufs_sub ..⟩
theorem pc2_6_fresh : (pc2_6 : List (HloOp τ sig (Elt F))).Forall fun op => op.fresh = ∅ :=
  ⟨rfl, rfl, rfl⟩
theorem pc2_6_nw : (pc2_6 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 2, tlOps0: %cst_41 … %cst_42. -/
abbrev pc2_7 : List (HloOp τ sig (Elt F)) :=
  [ StableHlo.nullary main_cst_41 (constant S_ .f32 0x00000000#32),
    StableHlo.unary main_cst_41 main_v117 (broadcastInDim S30001x20x5 ![] bcast_S_S30001x20x5 : (⟨S_, .f32⟩ : BufTy).Contents (Elt F) → (⟨S30001x20x5, .f32⟩ : BufTy).Contents (Elt F)),
    StableHlo.unary main_v114 main_v118 (broadcastInDim S300000x1 ![0] bcast_S300000_S300000x1_0 : (⟨S300000, .i1⟩ : BufTy).Contents (Elt F) → (⟨S300000x1, .i1⟩ : BufTy).Contents (Elt F)),
    StableHlo.nullary main_cst_42 (constant S_ .f32 0x00000000#32) ]
theorem pc2_7_sub : (pc2_7 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub ..⟩
theorem pc2_7_fresh : (pc2_7 : List (HloOp τ sig (Elt F))).Forall fun op => op.fresh = ∅ :=
  ⟨rfl, rfl, rfl, rfl⟩
theorem pc2_7_nw : (pc2_7 : List (HloOp τ sig (Elt F))).Forall fun op => (Proc.devRef .tc main_arg0 : DevRef τ sig) ∉ op.writes :=
  ⟨nullary_nw _ _ (by decide), unary_nw _ _ _ (by decide), unary_nw _ _ _ (by decide), nullary_nw _ _ (by decide)⟩

/-- 4 operations of @where_1 (main_call10), window 2, tlOps0: %119 … %119. -/
abbrev pc2_8 : List (HloOp τ sig (Elt F)) :=
  [ StableHlo.TRef.unary (.of main_cst_42 : StableHlo.TRef sig ⟨S_, .f32⟩) (.of main_call10_v0 : StableHlo.TRef sig ⟨S_, .f32⟩) id,
    StableHlo.TRef.unary (.of main_v118 : StableHlo.TRef sig ⟨S300000x1, .i1⟩) (.of main_call10_v1 : StableHlo.TRef sig ⟨S300000x5, .i1⟩) (broadcastInDim S300000x5 ![0, 1] bcast_S300000x1_S300000x5_0_1),
    StableHlo.TRef.unary (.of main_call10_v0 : StableHlo.TRef sig ⟨S_, .f32⟩) (.of main_call10_v2 : StableHlo.TRef sig ⟨S300000x5, .f32⟩) (broadcastInDim S300000x5 ![] bcast_S_S300000x5),
    StableHlo.TRef.ternary (.of main_call10_v1 : StableHlo.TRef sig ⟨S300000x5, .i1⟩) (.of main_v13 : StableHlo.TRef sig ⟨S300000x5, .f32⟩) (.of main_call10_v2 : StableHlo.TRef sig ⟨S300000x5, .f32⟩) (.of main_v119 : StableHlo.TRef sig ⟨S300000x5, .f32⟩) select ]
theorem pc2_8_sub : (pc2_8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem pc2_8_fresh : (pc2_8 : List (HloOp τ sig (Elt F))).Forall fun op => op.fresh = ∅ :=
  ⟨rfl, rfl, rfl, rfl⟩
theorem pc2_8_nw : (pc2_8 : List (HloOp τ sig (Elt F))).Forall fun op => (Proc.devRef .tc main_arg0 : DevRef τ sig) ∉ op.writes :=
  ⟨unary_nw _ _ _ (by decide), unary_nw _ _ _ (by decide), unary_nw _ _ _ (by decide), ternary_nw _ _ _ _ _ (by decide)⟩

/-- 15 operations of @main, window 2, tlOps0: %c_43 … %130. -/
abbrev pc2_9 : List (HloOp τ sig (Elt F)) :=
  [ StableHlo.nullary main_c_43 (constantI S_ 32 0#32),
    StableHlo.unary main_c_43 main_v120 (broadcastInDim S300000 ![] bcast_S_S300000 : (⟨S_, .i32⟩ : BufTy).Contents (Elt F) → (⟨S300000, .i32⟩ : BufTy).Contents (Elt F)),
    StableHlo.binary main_v115 main_v120 main_v121 (cmpi .slt : (⟨S300000, .i32⟩ : BufTy).Contents (Elt F) → (⟨S300000, .i32⟩ : BufTy).Contents (Elt F) → (⟨S300000, .i1⟩ : BufTy).Contents (Elt F)),
    StableHlo.nullary main_c_44 (constantI S_ 32 30001#32),
    StableHlo.unary main_c_44 main_v122 (broadcastInDim S300000 ![] bcast_S_S300000 : (⟨S_, .i32⟩ : BufTy).Contents (Elt F) → (⟨S300000, .i32⟩ : BufTy).Contents (Elt F)),
    StableHlo.binary main_v115 main_v122 main_v123 (addi : (⟨S300000, .i32⟩ : BufTy).Contents (Elt F) → (⟨S300000, .i32⟩ : BufTy).Contents (Elt F) → (⟨S300000, .i32⟩ : BufTy).Contents (Elt F)),
    StableHlo.ternary main_v121 main_v123 main_v115 main_v124 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_45 (constantI S_ 32 0#32),
    StableHlo.unary main_c_45 main_v125 (broadcastInDim S300000 ![] bcast_S_S300000 : (⟨S_, .i32⟩ : BufTy).Contents (Elt F) → (⟨S300000, .i32⟩ : BufTy).Contents (Elt F)),
    StableHlo.binary main_v116 main_v125 main_v126 (cmpi .slt : (⟨S300000, .i32⟩ : BufTy).Contents (Elt F) → (⟨S300000, .i32⟩ : BufTy).Contents (Elt F) → (⟨S300000, .i1⟩ : BufTy).Contents (Elt F)),
    StableHlo.nullary main_c_46 (constantI S_ 32 20#32),
    StableHlo.unary main_c_46 main_v127 (broadcastInDim S300000 ![] bcast_S_S300000 : (⟨S_, .i32⟩ : BufTy).Contents (Elt F) → (⟨S300000, .i32⟩ : BufTy).Contents (Elt F)),
    StableHlo.binary main_v116 main_v127 main_v128 (addi : (⟨S300000, .i32⟩ : BufTy).Contents (Elt F) → (⟨S300000, .i32⟩ : BufTy).Contents (Elt F) → (⟨S300000, .i32⟩ : BufTy).Contents (Elt F)),
    StableHlo.ternary main_v126 main_v128 main_v116 main_v129 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v124 main_v130 (broadcastInDim S300000x1 ![0] bcast_S300000_S300000x1_0 : (⟨S300000, .i32⟩ : BufTy).Contents (Elt F) → (⟨S300000x1, .i32⟩ : BufTy).Contents (Elt F)) ]
theorem pc2_9_sub : (pc2_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem pc2_9_fresh : (pc2_9 : List (HloOp τ sig (Elt F))).Forall fun op => op.fresh = ∅ :=
  ⟨rfl, rfl, rfl, rfl, rfl, rfl, rfl, rfl, rfl, rfl, rfl, rfl, rfl, rfl, rfl⟩
theorem pc2_9_nw : (pc2_9 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide)⟩

/-- 17 operations of @main, window 3, tlOps0: %131 … %c_50. -/
abbrev pc3_0 : List (HloOp τ sig (Elt F)) :=
  [ StableHlo.unary main_v129 main_v131 (broadcastInDim S300000x1 ![0] bcast_S300000_S300000x1_0 : (⟨S300000, .i32⟩ : BufTy).Contents (Elt F) → (⟨S300000x1, .i32⟩ : BufTy).Contents (Elt F)),
    StableHlo.binary main_v130 main_v131 main_v132 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v117 main_v132 main_v119 main_v133 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v133 main_v134 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v114 main_v135 ((extui 32 · natLt_1_32) : (⟨S300000, .i1⟩ : BufTy).Contents (Elt F) → (⟨S300000, .i32⟩ : BufTy).Contents (Elt F)),
    StableHlo.nullary main_c_47 (constantI S_ 32 0#32),
    StableHlo.unary main_c_47 main_v136 (broadcastInDim S30001 ![] bcast_S_S30001 : (⟨S_, .i32⟩ : BufTy).Contents (Elt F) → (⟨S30001, .i32⟩ : BufTy).Contents (Elt F)),
    StableHlo.unary main_v115 main_v137 (broadcastInDim S300000x1 ![0] bcast_S300000_S300000x1_0 : (⟨S300000, .i32⟩ : BufTy).Contents (Elt F) → (⟨S300000x1, .i32⟩ : BufTy).Contents (Elt F)),
    StableHlo.ternary main_v136 main_v137 main_v135 main_v138 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v138 main_v139 ((extractStridedSlice S30000 ![0] · slices_S30001_S30000_0) : (⟨S30001, .i32⟩ : BufTy).Contents (Elt F) → (⟨S30000, .i32⟩ : BufTy).Contents (Elt F)),
    StableHlo.nullary main_c_48 (constantI S_ 32 4294967295#32),
    StableHlo.unary main_c_48 main_v140 (broadcastInDim S30001 ![] bcast_S_S30001 : (⟨S_, .i32⟩ : BufTy).Contents (Elt F) → (⟨S30001, .i32⟩ : BufTy).Contents (Elt F)),
    StableHlo.nullary main_c_49 (constantI S_ 32 30000#32),
    StableHlo.unary main_c_49 main_v141 (broadcastInDim S300000 ![] bcast_S_S300000 : (⟨S_, .i32⟩ : BufTy).Contents (Elt F) → (⟨S300000, .i32⟩ : BufTy).Contents (Elt F)),
    StableHlo.binary main_v64 main_v141 main_v142 (cmpi .slt : (⟨S300000, .i32⟩ : BufTy).Contents (Elt F) → (⟨S300000, .i32⟩ : BufTy).Contents (Elt F) → (⟨S300000, .i1⟩ : BufTy).Contents (Elt F)),
    StableHlo.binary main_v60 main_v142 main_v143 (andi : (⟨S300000, .i1⟩ : BufTy).Contents (Elt F) → (⟨S300000, .i1⟩ : BufTy).Contents (Elt F) → (⟨S300000, .i1⟩ : BufTy).Contents (Elt F)),
    StableHlo.nullary main_c_50 (constantI S_ 32 30000#32) ]
theorem pc3_0_sub : (pc3_0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub ..⟩
theorem pc3_0_fresh : (pc3_0 : List (HloOp τ sig (Elt F))).Forall fun op => op.fresh = ∅ :=
  ⟨rfl, rfl, rfl, rfl, rfl, rfl, rfl, rfl, rfl, rfl, rfl, rfl, rfl, rfl, rfl, rfl, rfl⟩
theorem pc3_0_nw : (pc3_0 : List (HloOp τ sig (Elt F))).Forall fun op => (Proc.devRef .tc main_arg0 : DevRef τ sig) ∉ op.writes :=
  ⟨unary_nw _ _ _ (by decide), binary_nw _ _ _ _ (by decide), ternary_nw _ _ _ _ _ (by decide), unary_nw _ _ _ (by decide), unary_nw _ _ _ (by decide), nullary_nw _ _ (by decide), unary_nw _ _ _ (by decide), unary_nw _ _ _ (by decide), ternary_nw _ _ _ _ _ (by decide), unary_nw _ _ _ (by decide), nullary_nw _ _ (by decide), unary_nw _ _ _ (by decide), nullary_nw _ _ (by decide), unary_nw _ _ _ (by decide), binary_nw _ _ _ _ (by decide), binary_nw _ _ _ _ (by decide), nullary_nw _ _ (by decide)⟩

/-- 3 operations of @where (main_call11), window 3, tlOps0: %144 … %144. -/
abbrev pc3_1 : List (HloOp τ sig (Elt F)) :=
  [ StableHlo.TRef.unary (.of main_c_50 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S300000, .i32⟩) (broadcastInDim S300000 ![] bcast_S_S300000),
    StableHlo.TRef.ternary (.of main_v143 : StableHlo.TRef sig ⟨S300000, .i1⟩) (.of main_v64 : StableHlo.TRef sig ⟨S300000, .i32⟩) (.of main_call11_v1 : StableHlo.TRef sig ⟨S300000, .i32⟩) (.of main_v144 : StableHlo.TRef sig ⟨S300000, .i32⟩) select ]
theorem pc3_1_sub : (pc3_1 : List (HloOp τ sig (Elt F))).Forall fun op => op.bufs ⊆ StableHlo.tcRefs τ sig :=
  ⟨StableHlo.unary_bufs_sub .., StableHlo.unary_bufs_sub .., StableHlo.ternary_bufs_sub ..⟩
theorem pc3_1_fresh : (pc3_1 : List (HloOp τ sig (Elt F))).Forall fun op => op.fresh = ∅ :=
  ⟨rfl, rfl, rfl⟩
theorem pc3_1_nw : (pc3_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 5 operations of @main, window 3, tlOps0: %c_51 … %c_52. -/
abbrev pc3_2 : List (HloOp τ sig (Elt F)) :=
  [ StableHlo.nullary main_c_51 (constantI S_ 32 30000#32),
    StableHlo.unary main_c_51 main_v145 (broadcastInDim S300000 ![] bcast_S_S300000 : (⟨S_, .i32⟩ : BufTy).Contents (Elt F) → (⟨S300000, .i32⟩ : BufTy).Contents (Elt F)),
    StableHlo.binary main_v64 main_v145 main_v146 (cmpi .slt : (⟨S300000, .i32⟩ : BufTy).Contents (Elt F) → (⟨S300000, .i32⟩ : BufTy).Contents (Elt F) → (⟨S300000, .i1⟩ : BufTy).Contents (Elt F)),
    StableHlo.binary main_v60 main_v146 main_v147 (andi : (⟨S300000, .i1⟩ : BufTy).Contents (Elt F) → (⟨S300000, .i1⟩ : BufTy).Contents (Elt F) → (⟨S300000, .i1⟩ : BufTy).Contents (Elt F)),
    StableHlo.nullary main_c_52 (constantI S_ 32 4294967295#32) ]
theorem pc3_2_sub : (pc3_2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub ..⟩
theorem pc3_2_fresh : (pc3_2 : List (HloOp τ sig (Elt F))).Forall fun op => op.fresh = ∅ :=
  ⟨rfl, rfl, rfl, rfl, rfl⟩
theorem pc3_2_nw : (pc3_2 : List (HloOp τ sig (Elt F))).Forall fun op => (Proc.devRef .tc main_arg0 : DevRef τ sig) ∉ op.writes :=
  ⟨nullary_nw _ _ (by decide), unary_nw _ _ _ (by decide), binary_nw _ _ _ _ (by decide), binary_nw _ _ _ _ (by decide), nullary_nw _ _ (by decide)⟩

/-- 3 operations of @where (main_call12), window 3, tlOps0: %148 … %148. -/
abbrev pc3_3 : List (HloOp τ sig (Elt F)) :=
  [ StableHlo.TRef.unary (.of main_c_52 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S300000, .i32⟩) (broadcastInDim S300000 ![] bcast_S_S300000),
    StableHlo.TRef.ternary (.of main_v147 : StableHlo.TRef sig ⟨S300000, .i1⟩) (.of main_v42 : StableHlo.TRef sig ⟨S300000, .i32⟩) (.of main_call12_v1 : StableHlo.TRef sig ⟨S300000, .i32⟩) (.of main_v148 : StableHlo.TRef sig ⟨S300000, .i32⟩) select ]
theorem pc3_3_sub : (pc3_3 : List (HloOp τ sig (Elt F))).Forall fun op => op.bufs ⊆ StableHlo.tcRefs τ sig :=
  ⟨StableHlo.unary_bufs_sub .., StableHlo.unary_bufs_sub .., StableHlo.ternary_bufs_sub ..⟩
theorem pc3_3_fresh : (pc3_3 : List (HloOp τ sig (Elt F))).Forall fun op => op.fresh = ∅ :=
  ⟨rfl, rfl, rfl⟩
theorem pc3_3_nw : (pc3_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 14 operations of @main, window 3, tlOps0: %c_53 … %c_56. -/
abbrev pc3_4 : List (HloOp τ sig (Elt F)) :=
  [ StableHlo.nullary main_c_53 (constantI S_ 32 0#32),
    StableHlo.unary main_c_53 main_v149 (broadcastInDim S300000 ![] bcast_S_S300000 : (⟨S_, .i32⟩ : BufTy).Contents (Elt F) → (⟨S300000, .i32⟩ : BufTy).Contents (Elt F)),
    StableHlo.binary main_v144 main_v149 main_v150 (cmpi .slt : (⟨S300000, .i32⟩ : BufTy).Contents (Elt F) → (⟨S300000, .i32⟩ : BufTy).Contents (Elt F) → (⟨S300000, .i1⟩ : BufTy).Contents (Elt F)),
    StableHlo.nullary main_c_54 (constantI S_ 32 30001#32),
    StableHlo.unary main_c_54 main_v151 (broadcastInDim S300000 ![] bcast_S_S300000 : (⟨S_, .i32⟩ : BufTy).Contents (Elt F) → (⟨S300000, .i32⟩ : BufTy).Contents (Elt F)),
    StableHlo.binary main_v144 main_v151 main_v152 (addi : (⟨S300000, .i32⟩ : BufTy).Contents (Elt F) → (⟨S300000, .i32⟩ : BufTy).Contents (Elt F) → (⟨S300000, .i32⟩ : BufTy).Contents (Elt F)),
    StableHlo.ternary main_v150 main_v152 main_v144 main_v153 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v153 main_v154 (broadcastInDim S300000x1 ![0] bcast_S300000_S300000x1_0 : (⟨S300000, .i32⟩ : BufTy).Contents (Elt F) → (⟨S300000x1, .i32⟩ : BufTy).Contents (Elt F)),
    StableHlo.ternary main_v140 main_v154 main_v148 main_v155 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v155 main_v156 ((extractStridedSlice S30000 ![0] · slices_S30001_S30000_0) : (⟨S30001, .i32⟩ : BufTy).Contents (Elt F) → (⟨S30000, .i32⟩ : BufTy).Contents (Elt F)),
    StableHlo.nullary main_c_55 (constantI S_ 32 0#32),
    StableHlo.unary main_c_55 main_v157 (broadcastInDim S30000 ![] bcast_S_S30000 : (⟨S_, .i32⟩ : BufTy).Contents (Elt F) → (⟨S30000, .i32⟩ : BufTy).Contents (Elt F)),
    StableHlo.binary main_v156 main_v157 main_v158 (cmpi .sge : (⟨S30000, .i32⟩ : BufTy).Contents (Elt F) → (⟨S30000, .i32⟩ : BufTy).Contents (Elt F) → (⟨S30000, .i1⟩ : BufTy).Contents (Elt F)),
    StableHlo.nullary main_c_56 (constantI S_ 32 262144#32) ]
theorem pc3_4_sub : (pc3_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub ..⟩
theorem pc3_4_fresh : (pc3_4 : List (HloOp τ sig (Elt F))).Forall fun op => op.fresh = ∅ :=
  ⟨rfl, rfl, rfl, rfl, rfl, rfl, rfl, rfl, rfl, rfl, rfl, rfl, rfl, rfl⟩
theorem pc3_4_nw : (pc3_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), unary_nw _ _ _ (by decide), nullary_nw _ _ (by decide), unary_nw _ _ _ (by decide), binary_nw _ _ _ _ (by decide), nullary_nw _ _ (by decide)⟩

/-- 17 operations of @floor_divide (main_call13), window 3, tlOps0: %159 … %159. -/
abbrev pc3_5 : List (HloOp τ sig (Elt F)) :=
  [ StableHlo.TRef.unary (.of main_c_56 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S30000, .i32⟩) (broadcastInDim S30000 ![] bcast_S_S30000),
    StableHlo.TRef.binary (.of main_v156 : StableHlo.TRef sig ⟨S30000, .i32⟩) (.of main_call13_v1 : StableHlo.TRef sig ⟨S30000, .i32⟩) (.of main_call13_v2 : StableHlo.TRef sig ⟨S30000, .i32⟩) Host.divsi,
    StableHlo.TRef.unary (.of main_v156 : StableHlo.TRef sig ⟨S30000, .i32⟩) (.of main_call13_v3 : StableHlo.TRef sig ⟨S30000, .i32⟩) signi,
    StableHlo.TRef.unary (.of main_call13_v0 : StableHlo.TRef sig ⟨S_, .i32⟩) (.of main_call13_v4 : StableHlo.TRef sig ⟨S_, .i32⟩) signi,
    StableHlo.TRef.unary (.of main_call13_v4 : StableHlo.TRef sig ⟨S_, .i32⟩) (.of main_call13_v5 : StableHlo.TRef sig ⟨S30000, .i32⟩) (broadcastInDim S30000 ![] bcast_S_S30000),
    StableHlo.TRef.binary (.of main_call13_v3 : StableHlo.TRef sig ⟨S30000, .i32⟩) (.of main_call13_v5 : StableHlo.TRef sig ⟨S30000, .i32⟩) (.of main_call13_v6 : StableHlo.TRef sig ⟨S30000, .i1⟩) (cmpi .ne),
    StableHlo.TRef.unary (.of main_call13_v0 : StableHlo.TRef sig ⟨S_, .i32⟩) (.of main_call13_v7 : StableHlo.TRef sig ⟨S30000, .i32⟩) (broadcastInDim S30000 ![] bcast_S_S30000),
    StableHlo.TRef.binary (.of main_v156 : StableHlo.TRef sig ⟨S30000, .i32⟩) (.of main_call13_v7 : StableHlo.TRef sig ⟨S30000, .i32⟩) (.of main_call13_v8 : StableHlo.TRef sig ⟨S30000, .i32⟩) Host.remsi,
    StableHlo.TRef.nullary (.of main_call13_c : StableHlo.TRef sig ⟨S_, .i32⟩) (constantI S_ 32 0#32),
    StableHlo.TRef.unary (.of main_call13_c : StableHlo.TRef sig ⟨S_, .i32⟩) (.of main_call13_v9 : StableHlo.TRef sig ⟨S30000, .i32⟩) (broadcastInDim S30000 ![] bcast_S_S30000),
    StableHlo.TRef.binary (.of main_call13_v8 : StableHlo.TRef sig ⟨S30000, .i32⟩) (.of main_call13_v9 : StableHlo.TRef sig ⟨S30000, .i32⟩) (.of main_call13_v10 : StableHlo.TRef sig ⟨S30000, .i1⟩) (cmpi .ne),
    StableHlo.TRef.binary (.of main_call13_v6 : StableHlo.TRef sig ⟨S30000, .i1⟩) (.of main_call13_v10 : StableHlo.TRef sig ⟨S30000, .i1⟩) (.of main_call13_v11 : StableHlo.TRef sig ⟨S30000, .i1⟩) andi,
    StableHlo.TRef.nullary (.of main_call13_c_0 : StableHlo.TRef sig ⟨S_, .i32⟩) (constantI S_ 32 1#32),
    StableHlo.TRef.unary (.of main_call13_c_0 : StableHlo.TRef sig ⟨S_, .i32⟩) (.of main_call13_v12 : StableHlo.TRef sig ⟨S30000, .i32⟩) (broadcastInDim S30000 ![] bcast_S_S30000),
    StableHlo.TRef.binary (.of main_call13_v2 : StableHlo.TRef sig ⟨S30000, .i32⟩) (.of main_call13_v12 : StableHlo.TRef sig ⟨S30000, .i32⟩) (.of main_call13_v13 : StableHlo.TRef sig ⟨S30000, .i32⟩) subi,
    StableHlo.TRef.ternary (.of main_call13_v11 : StableHlo.TRef sig ⟨S30000, .i1⟩) (.of main_call13_v13 : StableHlo.TRef sig ⟨S30000, .i32⟩) (.of main_call13_v2 : StableHlo.TRef sig ⟨S30000, .i32⟩) (.of main_v159 : StableHlo.TRef sig ⟨S30000, .i32⟩) select ]
theorem pc3_5_sub : (pc3_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc3_5_fresh : (pc3_5 : List (HloOp τ sig (Elt F))).Forall fun op => op.fresh = ∅ :=
  ⟨rfl, rfl, rfl, rfl, rfl, rfl, rfl, rfl, rfl, rfl, rfl, rfl, rfl, rfl, rfl, rfl, rfl⟩
theorem pc3_5_nw : (pc3_5 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 3, tlOps0: %c_57 … %c_57. -/
abbrev pc3_6 : List (HloOp τ sig (Elt F)) :=
  [ StableHlo.nullary main_c_57 (constantI S_ 32 4294967295#32) ]
theorem pc3_6_sub : (pc3_6 : List (HloOp τ sig (Elt F))).Forall fun op => op.bufs ⊆ StableHlo.tcRefs τ sig :=
  StableHlo.nullary_bufs_sub ..
theorem pc3_6_fresh : (pc3_6 : List (HloOp τ sig (Elt F))).Forall fun op => op.fresh = ∅ :=
  rfl
theorem pc3_6_nw : (pc3_6 : List (HloOp τ sig (Elt F))).Forall fun op => (Proc.devRef .tc main_arg0 : DevRef τ sig) ∉ op.writes :=
  nullary_nw _ _ (by decide)

/-- 3 operations of @where_3 (main_call14), window 3, tlOps0: %160 … %160. -/
abbrev pc3_7 : List (HloOp τ sig (Elt F)) :=
  [ StableHlo.TRef.unary (.of main_c_57 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S30000, .i32⟩) (broadcastInDim S30000 ![] bcast_S_S30000),
    StableHlo.TRef.ternary (.of main_v158 : StableHlo.TRef sig ⟨S30000, .i1⟩) (.of main_v159 : StableHlo.TRef sig ⟨S30000, .i32⟩) (.of main_call14_v1 : StableHlo.TRef sig ⟨S30000, .i32⟩) (.of main_v160 : StableHlo.TRef sig ⟨S30000, .i32⟩) select ]
theorem pc3_7_sub : (pc3_7 : List (HloOp τ sig (Elt F))).Forall fun op => op.bufs ⊆ StableHlo.tcRefs τ sig :=
  ⟨StableHlo.unary_bufs_sub .., StableHlo.unary_bufs_sub .., StableHlo.ternary_bufs_sub ..⟩
theorem pc3_7_fresh : (pc3_7 : List (HloOp τ sig (Elt F))).Forall fun op => op.fresh = ∅ :=
  ⟨rfl, rfl, rfl⟩
theorem pc3_7_nw : (pc3_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 3, tlOps0: %c_58 … %c_59. -/
abbrev pc3_8 : List (HloOp τ sig (Elt F)) :=
  [ StableHlo.nullary main_c_58 (constantI S_ 32 0#32),
    StableHlo.unary main_c_58 main_v161 (broadcastInDim S30000 ![] bcast_S_S30000 : (⟨S_, .i32⟩ : BufTy).Contents (Elt F) → (⟨S30000, .i32⟩ : BufTy).Contents (Elt F)),
    StableHlo.binary main_v156 main_v161 main_v162 (cmpi .sge : (⟨S30000, .i32⟩ : BufTy).Contents (Elt F) → (⟨S30000, .i32⟩ : BufTy).Contents (Elt F) → (⟨S30000, .i1⟩ : BufTy).Contents (Elt F)),
    StableHlo.nullary main_c_59 (constantI S_ 32 512#32) ]
theorem pc3_8_sub : (pc3_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc3_8_fresh : (pc3_8 : List (HloOp τ sig (Elt F))).Forall fun op => op.fresh = ∅ :=
  ⟨rfl, rfl, rfl, rfl⟩
theorem pc3_8_nw : (pc3_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 17 operations of @floor_divide (main_call15), window 3, tlOps0: %163 … %163. -/
abbrev pc3_9 : List (HloOp τ sig (Elt F)) :=
  [ StableHlo.TRef.unary (.of main_c_59 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S30000, .i32⟩) (broadcastInDim S30000 ![] bcast_S_S30000),
    StableHlo.TRef.binary (.of main_v156 : StableHlo.TRef sig ⟨S30000, .i32⟩) (.of main_call15_v1 : StableHlo.TRef sig ⟨S30000, .i32⟩) (.of main_call15_v2 : StableHlo.TRef sig ⟨S30000, .i32⟩) Host.divsi,
    StableHlo.TRef.unary (.of main_v156 : StableHlo.TRef sig ⟨S30000, .i32⟩) (.of main_call15_v3 : StableHlo.TRef sig ⟨S30000, .i32⟩) signi,
    StableHlo.TRef.unary (.of main_call15_v0 : StableHlo.TRef sig ⟨S_, .i32⟩) (.of main_call15_v4 : StableHlo.TRef sig ⟨S_, .i32⟩) signi,
    StableHlo.TRef.unary (.of main_call15_v4 : StableHlo.TRef sig ⟨S_, .i32⟩) (.of main_call15_v5 : StableHlo.TRef sig ⟨S30000, .i32⟩) (broadcastInDim S30000 ![] bcast_S_S30000),
    StableHlo.TRef.binary (.of main_call15_v3 : StableHlo.TRef sig ⟨S30000, .i32⟩) (.of main_call15_v5 : StableHlo.TRef sig ⟨S30000, .i32⟩) (.of main_call15_v6 : StableHlo.TRef sig ⟨S30000, .i1⟩) (cmpi .ne),
    StableHlo.TRef.unary (.of main_call15_v0 : StableHlo.TRef sig ⟨S_, .i32⟩) (.of main_call15_v7 : StableHlo.TRef sig ⟨S30000, .i32⟩) (broadcastInDim S30000 ![] bcast_S_S30000),
    StableHlo.TRef.binary (.of main_v156 : StableHlo.TRef sig ⟨S30000, .i32⟩) (.of main_call15_v7 : StableHlo.TRef sig ⟨S30000, .i32⟩) (.of main_call15_v8 : StableHlo.TRef sig ⟨S30000, .i32⟩) Host.remsi,
    StableHlo.TRef.nullary (.of main_call15_c : StableHlo.TRef sig ⟨S_, .i32⟩) (constantI S_ 32 0#32),
    StableHlo.TRef.unary (.of main_call15_c : StableHlo.TRef sig ⟨S_, .i32⟩) (.of main_call15_v9 : StableHlo.TRef sig ⟨S30000, .i32⟩) (broadcastInDim S30000 ![] bcast_S_S30000),
    StableHlo.TRef.binary (.of main_call15_v8 : StableHlo.TRef sig ⟨S30000, .i32⟩) (.of main_call15_v9 : StableHlo.TRef sig ⟨S30000, .i32⟩) (.of main_call15_v10 : StableHlo.TRef sig ⟨S30000, .i1⟩) (cmpi .ne),
    StableHlo.TRef.binary (.of main_call15_v6 : StableHlo.TRef sig ⟨S30000, .i1⟩) (.of main_call15_v10 : StableHlo.TRef sig ⟨S30000, .i1⟩) (.of main_call15_v11 : StableHlo.TRef sig ⟨S30000, .i1⟩) andi,
    StableHlo.TRef.nullary (.of main_call15_c_0 : StableHlo.TRef sig ⟨S_, .i32⟩) (constantI S_ 32 1#32),
    StableHlo.TRef.unary (.of main_call15_c_0 : StableHlo.TRef sig ⟨S_, .i32⟩) (.of main_call15_v12 : StableHlo.TRef sig ⟨S30000, .i32⟩) (broadcastInDim S30000 ![] bcast_S_S30000),
    StableHlo.TRef.binary (.of main_call15_v2 : StableHlo.TRef sig ⟨S30000, .i32⟩) (.of main_call15_v12 : StableHlo.TRef sig ⟨S30000, .i32⟩) (.of main_call15_v13 : StableHlo.TRef sig ⟨S30000, .i32⟩) subi,
    StableHlo.TRef.ternary (.of main_call15_v11 : StableHlo.TRef sig ⟨S30000, .i1⟩) (.of main_call15_v13 : StableHlo.TRef sig ⟨S30000, .i32⟩) (.of main_call15_v2 : StableHlo.TRef sig ⟨S30000, .i32⟩) (.of main_v163 : StableHlo.TRef sig ⟨S30000, .i32⟩) select ]
theorem pc3_9_sub : (pc3_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc3_9_fresh : (pc3_9 : List (HloOp τ sig (Elt F))).Forall fun op => op.fresh = ∅ :=
  ⟨rfl, rfl, rfl, rfl, rfl, rfl, rfl, rfl, rfl, rfl, rfl, rfl, rfl, rfl, rfl, rfl, rfl⟩
theorem pc3_9_nw : (pc3_9 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 3, tlOps0: %c_60 … %c_60. -/
abbrev pc3_10 : List (HloOp τ sig (Elt F)) :=
  [ StableHlo.nullary main_c_60 (constantI S_ 32 512#32) ]
theorem pc3_10_sub : (pc3_10 : List (HloOp τ sig (Elt F))).Forall fun op => op.bufs ⊆ StableHlo.tcRefs τ sig :=
  StableHlo.nullary_bufs_sub ..
theorem pc3_10_fresh : (pc3_10 : List (HloOp τ sig (Elt F))).Forall fun op => op.fresh = ∅ :=
  rfl
theorem pc3_10_nw : (pc3_10 : List (HloOp τ sig (Elt F))).Forall fun op => (Proc.devRef .tc main_arg0 : DevRef τ sig) ∉ op.writes :=
  nullary_nw _ _ (by decide)

/-- 21 operations of @remainder (main_call16), window 3, tlOps0: %164 … %164. -/
abbrev pc3_11 : List (HloOp τ sig (Elt F)) :=
  [ StableHlo.TRef.unary (.of main_c_60 : StableHlo.TRef sig ⟨S_, .i32⟩) (.of main_call16_v0 : StableHlo.TRef sig ⟨S_, .i32⟩) id,
    StableHlo.TRef.nullary (.of main_call16_c : StableHlo.TRef sig ⟨S_, .i32⟩) (constantI S_ 32 0#32),
    StableHlo.TRef.binary (.of main_call16_v0 : StableHlo.TRef sig ⟨S_, .i32⟩) (.of main_call16_c : StableHlo.TRef sig ⟨S_, .i32⟩) (.of main_call16_v1 : StableHlo.TRef sig ⟨S_, .i1⟩) (cmpi .eq),
    StableHlo.TRef.nullary (.of main_call16_c_0 : StableHlo.TRef sig ⟨S_, .i32⟩) (constantI S_ 32 1#32),
    StableHlo.TRef.ternary (.of main_call16_v1 : StableHlo.TRef sig ⟨S_, .i1⟩) (.of main_call16_c_0 : StableHlo.TRef sig ⟨S_, .i32⟩) (.of main_call16_v0 : StableHlo.TRef sig ⟨S_, .i32⟩) (.of main_call16_v2 : StableHlo.TRef sig ⟨S_, .i32⟩) select,
    StableHlo.TRef.unary (.of main_call16_v2 : StableHlo.TRef sig ⟨S_, .i32⟩) (.of main_call16_v3 : StableHlo.TRef sig ⟨S30000, .i32⟩) (broadcastInDim S30000 ![] bcast_S_S30000),
    StableHlo.TRef.binary (.of main_v163 : StableHlo.TRef sig ⟨S30000, .i32⟩) (.of main_call16_v3 : StableHlo.TRef sig ⟨S30000, .i32⟩) (.of main_call16_v4 : StableHlo.TRef sig ⟨S30000, .i32⟩) Host.remsi,
    StableHlo.TRef.nullary (.of main_call16_c_1 : StableHlo.TRef sig ⟨S_, .i32⟩) (constantI S_ 32 0#32),
    StableHlo.TRef.unary (.of main_call16_c_1 : StableHlo.TRef sig ⟨S_, .i32⟩) (.of main_call16_v5 : StableHlo.TRef sig ⟨S30000, .i32⟩) (broadcastInDim S30000 ![] bcast_S_S30000),
    StableHlo.TRef.binary (.of main_call16_v4 : StableHlo.TRef sig ⟨S30000, .i32⟩) (.of main_call16_v5 : StableHlo.TRef sig ⟨S30000, .i32⟩) (.of main_call16_v6 : StableHlo.TRef sig ⟨S30000, .i1⟩) (cmpi .ne),
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v7 : StableHlo.TRef sig ⟨S30000, .i32⟩) (broadcastInDim S30000 ![] bcast_S_S30000),
    StableHlo.TRef.binary (.of main_call16_v4 : StableHlo.TRef sig ⟨S30000, .i32⟩) (.of main_call16_v7 : StableHlo.TRef sig ⟨S30000, .i32⟩) (.of main_call16_v8 : StableHlo.TRef sig ⟨S30000, .i1⟩) (cmpi .slt),
    StableHlo.TRef.nullary (.of main_call16_c_3 : StableHlo.TRef sig ⟨S_, .i32⟩) (constantI S_ 32 0#32),
    StableHlo.TRef.binary (.of main_call16_v2 : StableHlo.TRef sig ⟨S_, .i32⟩) (.of main_call16_c_3 : StableHlo.TRef sig ⟨S_, .i32⟩) (.of main_call16_v9 : StableHlo.TRef sig ⟨S_, .i1⟩) (cmpi .slt),
    StableHlo.TRef.unary (.of main_call16_v9 : StableHlo.TRef sig ⟨S_, .i1⟩) (.of main_call16_v10 : StableHlo.TRef sig ⟨S30000, .i1⟩) (broadcastInDim S30000 ![] bcast_S_S30000),
    StableHlo.TRef.binary (.of main_call16_v8 : StableHlo.TRef sig ⟨S30000, .i1⟩) (.of main_call16_v10 : StableHlo.TRef sig ⟨S30000, .i1⟩) (.of main_call16_v11 : StableHlo.TRef sig ⟨S30000, .i1⟩) (cmpi .ne),
    StableHlo.TRef.binary (.of main_call16_v11 : StableHlo.TRef sig ⟨S30000, .i1⟩) (.of main_call16_v6 : StableHlo.TRef sig ⟨S30000, .i1⟩) (.of main_call16_v12 : StableHlo.TRef sig ⟨S30000, .i1⟩) andi,
    StableHlo.TRef.unary (.of main_call16_v2 : StableHlo.TRef sig ⟨S_, .i32⟩) (.of main_call16_v13 : StableHlo.TRef sig ⟨S30000, .i32⟩) (broadcastInDim S30000 ![] bcast_S_S30000),
    StableHlo.TRef.binary (.of main_call16_v4 : StableHlo.TRef sig ⟨S30000, .i32⟩) (.of main_call16_v13 : StableHlo.TRef sig ⟨S30000, .i32⟩) (.of main_call16_v14 : StableHlo.TRef sig ⟨S30000, .i32⟩) addi,
    StableHlo.TRef.ternary (.of main_call16_v12 : StableHlo.TRef sig ⟨S30000, .i1⟩) (.of main_call16_v14 : StableHlo.TRef sig ⟨S30000, .i32⟩) (.of main_call16_v4 : StableHlo.TRef sig ⟨S30000, .i32⟩) (.of main_v164 : StableHlo.TRef sig ⟨S30000, .i32⟩) select ]
theorem pc3_11_sub : (pc3_11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc3_11_fresh : (pc3_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc3_11_nw : (pc3_11 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 3, tlOps0: %c_61 … %c_61. -/
abbrev pc3_12 : List (HloOp τ sig (Elt F)) :=
  [ StableHlo.nullary main_c_61 (constantI S_ 32 4294967295#32) ]
theorem pc3_12_sub : (pc3_12 : List (HloOp τ sig (Elt F))).Forall fun op => op.bufs ⊆ StableHlo.tcRefs τ sig :=
  StableHlo.nullary_bufs_sub ..
theorem pc3_12_fresh : (pc3_12 : List (HloOp τ sig (Elt F))).Forall fun op => op.fresh = ∅ :=
  rfl
theorem pc3_12_nw : (pc3_12 : List (HloOp τ sig (Elt F))).Forall fun op => (Proc.devRef .tc main_arg0 : DevRef τ sig) ∉ op.writes :=
  nullary_nw _ _ (by decide)

/-- 3 operations of @where_3 (main_call17), window 3, tlOps0: %165 … %165. -/
abbrev pc3_13 : List (HloOp τ sig (Elt F)) :=
  [ StableHlo.TRef.unary (.of main_c_61 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S30000, .i32⟩) (broadcastInDim S30000 ![] bcast_S_S30000),
    StableHlo.TRef.ternary (.of main_v162 : StableHlo.TRef sig ⟨S30000, .i1⟩) (.of main_v164 : StableHlo.TRef sig ⟨S30000, .i32⟩) (.of main_call17_v1 : StableHlo.TRef sig ⟨S30000, .i32⟩) (.of main_v165 : StableHlo.TRef sig ⟨S30000, .i32⟩) select ]
theorem pc3_13_sub : (pc3_13 : List (HloOp τ sig (Elt F))).Forall fun op => op.bufs ⊆ StableHlo.tcRefs τ sig :=
  ⟨StableHlo.unary_bufs_sub .., StableHlo.unary_bufs_sub .., StableHlo.ternary_bufs_sub ..⟩
theorem pc3_13_fresh : (pc3_13 : List (HloOp τ sig (Elt F))).Forall fun op => op.fresh = ∅ :=
  ⟨rfl, rfl, rfl⟩
theorem pc3_13_nw : (pc3_13 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 3, tlOps0: %c_62 … %c_63. -/
abbrev pc3_14 : List (HloOp τ sig (Elt F)) :=
  [ StableHlo.nullary main_c_62 (constantI S_ 32 0#32),
    StableHlo.unary main_c_62 main_v166 (broadcastInDim S30000 ![] bcast_S_S30000 : (⟨S_, .i32⟩ : BufTy).Contents (Elt F) → (⟨S30000, .i32⟩ : BufTy).Contents (Elt F)),
    StableHlo.binary main_v156 main_v166 main_v167 (cmpi .sge : (⟨S30000, .i32⟩ : BufTy).Contents (Elt F) → (⟨S30000, .i32⟩ : BufTy).Contents (Elt F) → (⟨S30000, .i1⟩ : BufTy).Contents (Elt F)),
    StableHlo.nullary main_c_63 (constantI S_ 32 512#32) ]
theorem pc3_14_sub : (pc3_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc3_14_fresh : (pc3_14 : List (HloOp τ sig (Elt F))).Forall fun op => op.fresh = ∅ :=
  ⟨rfl, rfl, rfl, rfl⟩
theorem pc3_14_nw : (pc3_14 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 21 operations of @remainder (main_call18), window 3, tlOps0: %168 … %168. -/
abbrev pc3_15 : List (HloOp τ sig (Elt F)) :=
  [ StableHlo.TRef.unary (.of main_c_63 : StableHlo.TRef sig ⟨S_, .i32⟩) (.of main_call18_v0 : StableHlo.TRef sig ⟨S_, .i32⟩) id,
    StableHlo.TRef.nullary (.of main_call18_c : StableHlo.TRef sig ⟨S_, .i32⟩) (constantI S_ 32 0#32),
    StableHlo.TRef.binary (.of main_call18_v0 : StableHlo.TRef sig ⟨S_, .i32⟩) (.of main_call18_c : StableHlo.TRef sig ⟨S_, .i32⟩) (.of main_call18_v1 : StableHlo.TRef sig ⟨S_, .i1⟩) (cmpi .eq),
    StableHlo.TRef.nullary (.of main_call18_c_0 : StableHlo.TRef sig ⟨S_, .i32⟩) (constantI S_ 32 1#32),
    StableHlo.TRef.ternary (.of main_call18_v1 : StableHlo.TRef sig ⟨S_, .i1⟩) (.of main_call18_c_0 : StableHlo.TRef sig ⟨S_, .i32⟩) (.of main_call18_v0 : StableHlo.TRef sig ⟨S_, .i32⟩) (.of main_call18_v2 : StableHlo.TRef sig ⟨S_, .i32⟩) select,
    StableHlo.TRef.unary (.of main_call18_v2 : StableHlo.TRef sig ⟨S_, .i32⟩) (.of main_call18_v3 : StableHlo.TRef sig ⟨S30000, .i32⟩) (broadcastInDim S30000 ![] bcast_S_S30000),
    StableHlo.TRef.binary (.of main_v156 : StableHlo.TRef sig ⟨S30000, .i32⟩) (.of main_call18_v3 : StableHlo.TRef sig ⟨S30000, .i32⟩) (.of main_call18_v4 : StableHlo.TRef sig ⟨S30000, .i32⟩) Host.remsi,
    StableHlo.TRef.nullary (.of main_call18_c_1 : StableHlo.TRef sig ⟨S_, .i32⟩) (constantI S_ 32 0#32),
    StableHlo.TRef.unary (.of main_call18_c_1 : StableHlo.TRef sig ⟨S_, .i32⟩) (.of main_call18_v5 : StableHlo.TRef sig ⟨S30000, .i32⟩) (broadcastInDim S30000 ![] bcast_S_S30000),
    StableHlo.TRef.binary (.of main_call18_v4 : StableHlo.TRef sig ⟨S30000, .i32⟩) (.of main_call18_v5 : StableHlo.TRef sig ⟨S30000, .i32⟩) (.of main_call18_v6 : StableHlo.TRef sig ⟨S30000, .i1⟩) (cmpi .ne),
    StableHlo.TRef.nullary (.of main_call18_c_2 : StableHlo.TRef sig ⟨S_, .i32⟩) (constantI S_ 32 0#32),
    StableHlo.TRef.unary (.of main_call18_c_2 : StableHlo.TRef sig ⟨S_, .i32⟩) (.of main_call18_v7 : StableHlo.TRef sig ⟨S30000, .i32⟩) (broadcastInDim S30000 ![] bcast_S_S30000),
    StableHlo.TRef.binary (.of main_call18_v4 : StableHlo.TRef sig ⟨S30000, .i32⟩) (.of main_call18_v7 : StableHlo.TRef sig ⟨S30000, .i32⟩) (.of main_call18_v8 : StableHlo.TRef sig ⟨S30000, .i1⟩) (cmpi .slt),
    StableHlo.TRef.nullary (.of main_call18_c_3 : StableHlo.TRef sig ⟨S_, .i32⟩) (constantI S_ 32 0#32),
    StableHlo.TRef.binary (.of main_call18_v2 : StableHlo.TRef sig ⟨S_, .i32⟩) (.of main_call18_c_3 : StableHlo.TRef sig ⟨S_, .i32⟩) (.of main_call18_v9 : StableHlo.TRef sig ⟨S_, .i1⟩) (cmpi .slt),
    StableHlo.TRef.unary (.of main_call18_v9 : StableHlo.TRef sig ⟨S_, .i1⟩) (.of main_call18_v10 : StableHlo.TRef sig ⟨S30000, .i1⟩) (broadcastInDim S30000 ![] bcast_S_S30000),
    StableHlo.TRef.binary (.of main_call18_v8 : StableHlo.TRef sig ⟨S30000, .i1⟩) (.of main_call18_v10 : StableHlo.TRef sig ⟨S30000, .i1⟩) (.of main_call18_v11 : StableHlo.TRef sig ⟨S30000, .i1⟩) (cmpi .ne),
    StableHlo.TRef.binary (.of main_call18_v11 : StableHlo.TRef sig ⟨S30000, .i1⟩) (.of main_call18_v6 : StableHlo.TRef sig ⟨S30000, .i1⟩) (.of main_call18_v12 : StableHlo.TRef sig ⟨S30000, .i1⟩) andi,
    StableHlo.TRef.unary (.of main_call18_v2 : StableHlo.TRef sig ⟨S_, .i32⟩) (.of main_call18_v13 : StableHlo.TRef sig ⟨S30000, .i32⟩) (broadcastInDim S30000 ![] bcast_S_S30000),
    StableHlo.TRef.binary (.of main_call18_v4 : StableHlo.TRef sig ⟨S30000, .i32⟩) (.of main_call18_v13 : StableHlo.TRef sig ⟨S30000, .i32⟩) (.of main_call18_v14 : StableHlo.TRef sig ⟨S30000, .i32⟩) addi,
    StableHlo.TRef.ternary (.of main_call18_v12 : StableHlo.TRef sig ⟨S30000, .i1⟩) (.of main_call18_v14 : StableHlo.TRef sig ⟨S30000, .i32⟩) (.of main_call18_v4 : StableHlo.TRef sig ⟨S30000, .i32⟩) (.of main_v168 : StableHlo.TRef sig ⟨S30000, .i32⟩) select ]
theorem pc3_15_sub : (pc3_15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc3_15_fresh : (pc3_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc3_15_nw : (pc3_15 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 3, tlOps0: %c_64 … %c_64. -/
abbrev pc3_16 : List (HloOp τ sig (Elt F)) :=
  [ StableHlo.nullary main_c_64 (constantI S_ 32 4294967295#32) ]
theorem pc3_16_sub : (pc3_16 : List (HloOp τ sig (Elt F))).Forall fun op => op.bufs ⊆ StableHlo.tcRefs τ sig :=
  StableHlo.nullary_bufs_sub ..
theorem pc3_16_fresh : (pc3_16 : List (HloOp τ sig (Elt F))).Forall fun op => op.fresh = ∅ :=
  rfl
theorem pc3_16_nw : (pc3_16 : List (HloOp τ sig (Elt F))).Forall fun op => (Proc.devRef .tc main_arg0 : DevRef τ sig) ∉ op.writes :=
  nullary_nw _ _ (by decide)

/-- 3 operations of @where_3 (main_call19), window 3, tlOps0: %169 … %169. -/
abbrev pc3_17 : List (HloOp τ sig (Elt F)) :=
  [ StableHlo.TRef.unary (.of main_c_64 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S30000, .i32⟩) (broadcastInDim S30000 ![] bcast_S_S30000),
    StableHlo.TRef.ternary (.of main_v167 : StableHlo.TRef sig ⟨S30000, .i1⟩) (.of main_v168 : StableHlo.TRef sig ⟨S30000, .i32⟩) (.of main_call19_v1 : StableHlo.TRef sig ⟨S30000, .i32⟩) (.of main_v169 : StableHlo.TRef sig ⟨S30000, .i32⟩) select ]
theorem pc3_17_sub : (pc3_17 : List (HloOp τ sig (Elt F))).Forall fun op => op.bufs ⊆ StableHlo.tcRefs τ sig :=
  ⟨StableHlo.unary_bufs_sub .., StableHlo.unary_bufs_sub .., StableHlo.ternary_bufs_sub ..⟩
theorem pc3_17_fresh : (pc3_17 : List (HloOp τ sig (Elt F))).Forall fun op => op.fresh = ∅ :=
  ⟨rfl, rfl, rfl⟩
theorem pc3_17_nw : (pc3_17 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @main, window 3, tlOps0: %170 … %172. -/
abbrev pc3_18 : List (HloOp τ sig (Elt F)) :=
  [ StableHlo.unary main_v160 main_v170 (broadcastInDim S30000x1 ![0] bcast_S30000_S30000x1_0 : (⟨S30000, .i32⟩ : BufTy).Contents (Elt F) → (⟨S30000x1, .i32⟩ : BufTy).Contents (Elt F)),
    StableHlo.unary main_v165 main_v171 (broadcastInDim S30000x1 ![0] bcast_S30000_S30000x1_0 : (⟨S30000, .i32⟩ : BufTy).Contents (Elt F) → (⟨S30000x1, .i32⟩ : BufTy).Contents (Elt F)),
    StableHlo.unary main_v169 main_v172 (broadcastInDim S30000x1 ![0] bcast_S30000_S30000x1_0 : (⟨S30000, .i32⟩ : BufTy).Contents (Elt F) → (⟨S30000x1, .i32⟩ : BufTy).Contents (Elt F)) ]
theorem pc3_18_sub : (pc3_18 : List (HloOp τ sig (Elt F))).Forall fun op => op.bufs ⊆ StableHlo.tcRefs τ sig :=
  ⟨StableHlo.unary_bufs_sub .., StableHlo.unary_bufs_sub .., StableHlo.unary_bufs_sub ..⟩
theorem pc3_18_fresh : (pc3_18 : List (HloOp τ sig (Elt F))).Forall fun op => op.fresh = ∅ :=
  ⟨rfl, rfl, rfl⟩
theorem pc3_18_nw : (pc3_18 : List (HloOp τ sig (Elt F))).Forall fun op => (Proc.devRef .tc main_arg0 : DevRef τ sig) ∉ op.writes :=
  ⟨unary_nw _ _ _ (by decide), unary_nw _ _ _ (by decide), unary_nw _ _ _ (by decide)⟩

/-- 4 operations of @main, window 4, tlOps0: %173 … %175. -/
abbrev pc4_0 : List (HloOp τ sig (Elt F)) :=
  [ StableHlo.nary ![main_v170, main_v171, main_v172] main_v173 (fun u => concatenate S30000x3 1 [⟨S30000x1, u 0⟩, ⟨S30000x1, u 1⟩, ⟨S30000x1, u 2⟩] concatenates_S30000x1_S30000x1_S30000x1_S30000x3_d1),
    StableHlo.nullary main_c_65 (constantI S_ 32 0#32),
    StableHlo.unary main_c_65 main_v174 (broadcastInDim S30000x1 ![] bcast_S_S30000x1 : (⟨S_, .i32⟩ : BufTy).Contents (Elt F) → (⟨S30000x1, .i32⟩ : BufTy).Contents (Elt F)),
    StableHlo.binary main_v174 main_v173 main_v175 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]
theorem pc4_0_sub : (pc4_0 : List (HloOp τ sig (Elt F))).Forall fun op => op.bufs ⊆ StableHlo.tcRefs τ sig :=
  ⟨StableHlo.nary_bufs_sub .., StableHlo.nullary_bufs_sub .., StableHlo.unary_bufs_sub .., StableHlo.binary_bufs_sub ..⟩
theorem pc4_0_fresh : (pc4_0 : List (HloOp τ sig (Elt F))).Forall fun op => op.fresh = ∅ :=
  ⟨rfl, rfl, rfl, rfl⟩
theorem pc4_0_nw : (pc4_0 : List (HloOp τ sig (Elt F))).Forall fun op => (Proc.devRef .tc main_arg0 : DevRef τ sig) ∉ op.writes :=
  ⟨nary_nw _ _ _ _ (by decide), nullary_nw _ _ (by decide), unary_nw _ _ _ (by decide), binary_nw _ _ _ _ (by decide)⟩

/-- 23 operations of @main, window 4, ptsOps1: %176 … %189. -/
abbrev pc4_1 : List (HloOp τ sig (Elt F)) :=
  [ StableHlo.unary main_arg0 main_v176 ((extractStridedSlice S1x300000x5 ![1, 0, 0] · slices_S4x300000x5_S1x300000x5_1_0_0) : (⟨S4x300000x5, .f32⟩ : BufTy).Contents (Elt F) → (⟨S1x300000x5, .f32⟩ : BufTy).Contents (Elt F)),
    StableHlo.reshape main_v176 main_v177 rfl shapeCasts_S1x300000x5_S300000x5,
    StableHlo.nullary main_c_66 (constantI S_ 32 0#32),
    StableHlo.unary main_c_66 main_v178 (broadcastInDim S1 ![] bcast_S_S1 : (⟨S_, .i32⟩ : BufTy).Contents (Elt F) → (⟨S1, .i32⟩ : BufTy).Contents (Elt F)),
    StableHlo.nullary main_c_67 (constantI S_ 32 0#32),
    StableHlo.unary main_c_67 main_v179 (broadcastInDim S1 ![] bcast_S_S1 : (⟨S_, .i32⟩ : BufTy).Contents (Elt F) → (⟨S1, .i32⟩ : BufTy).Contents (Elt F)),
    StableHlo.binary main_v178 main_v179 main_v180 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_68 (constant S_ .f32 0x3F400000#32),
    StableHlo.ternary main_v177 main_v180 main_cst_68 main_v181 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_69 (constantI S_ 32 0#32),
    StableHlo.unary main_c_69 main_v182 (broadcastInDim S1 ![] bcast_S_S1 : (⟨S_, .i32⟩ : BufTy).Contents (Elt F) → (⟨S1, .i32⟩ : BufTy).Contents (Elt F)),
    StableHlo.nullary main_c_70 (constantI S_ 32 1#32),
    StableHlo.unary main_c_70 main_v183 (broadcastInDim S1 ![] bcast_S_S1 : (⟨S_, .i32⟩ : BufTy).Contents (Elt F) → (⟨S1, .i32⟩ : BufTy).Contents (Elt F)),
    StableHlo.binary main_v182 main_v183 main_v184 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_71 (constant S_ .f32 0x3E800000#32),
    StableHlo.ternary main_v181 main_v184 main_cst_71 main_v185 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_72 (constantI S_ 32 0#32),
    StableHlo.unary main_c_72 main_v186 (broadcastInDim S1 ![] bcast_S_S1 : (⟨S_, .i32⟩ : BufTy).Contents (Elt F) → (⟨S1, .i32⟩ : BufTy).Contents (Elt F)),
    StableHlo.nullary main_c_73 (constantI S_ 32 2#32),
    StableHlo.unary main_c_73 main_v187 (broadcastInDim S1 ![] bcast_S_S1 : (⟨S_, .i32⟩ : BufTy).Contents (Elt F) → (⟨S1, .i32⟩ : BufTy).Contents (Elt F)),
    StableHlo.binary main_v186 main_v187 main_v188 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_74 (constant S_ .f32 0x40000000#32),
    StableHlo.ternary main_v185 main_v188 main_cst_74 main_v189 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]
theorem pc4_1_sub : (pc4_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub ..⟩
theorem pc4_1_fresh : (pc4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pc4_1_nw : (pc4_1 : List (HloOp τ sig (Elt F))).Forall fun op => (Proc.devRef .tc main_arg0 : DevRef τ sig) ∉ op.writes :=
  ⟨unary_nw _ _ _ (by decide), reshape_nw _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide)⟩

/-- 33 operations of @main, window 4, linOps1: %190 … %c_79. -/
abbrev pc4_2 : List (HloOp τ sig (Elt F)) :=
  [ StableHlo.unary main_v189 main_v190 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v191 (broadcastInDim S1x3 ![1] bcast_S3_S1x3_1 : (⟨S3, .f32⟩ : BufTy).Contents (Elt F) → (⟨S1x3, .f32⟩ : BufTy).Contents (Elt F)),
    StableHlo.unary main_v191 main_v192 (broadcastInDim S300000x3 ![0, 1] bcast_S1x3_S300000x3_0_1 : (⟨S1x3, .f32⟩ : BufTy).Contents (Elt F) → (⟨S300000x3, .f32⟩ : BufTy).Contents (Elt F)),
    StableHlo.binary main_v190 main_v192 main_v193 (subf : (⟨S300000x3, .f32⟩ : BufTy).Contents (Elt F) → (⟨S300000x3, .f32⟩ : BufTy).Contents (Elt F) → (⟨S300000x3, .f32⟩ : BufTy).Contents (Elt F)),
    StableHlo.unary main_cst_0 main_v194 (broadcastInDim S1x3 ![1] bcast_S3_S1x3_1 : (⟨S3, .f32⟩ : BufTy).Contents (Elt F) → (⟨S1x3, .f32⟩ : BufTy).Contents (Elt F)),
    StableHlo.unary main_v194 main_v195 (broadcastInDim S300000x3 ![0, 1] bcast_S1x3_S300000x3_0_1 : (⟨S1x3, .f32⟩ : BufTy).Contents (Elt F) → (⟨S300000x3, .f32⟩ : BufTy).Contents (Elt F)),
    StableHlo.binary main_v193 main_v195 main_v196 (Host.divf : (⟨S300000x3, .f32⟩ : BufTy).Contents (Elt F) → (⟨S300000x3, .f32⟩ : BufTy).Contents (Elt F) → (⟨S300000x3, .f32⟩ : BufTy).Contents (Elt F)),
    StableHlo.unary main_v196 main_v197 (Host.floor : (⟨S300000x3, .f32⟩ : BufTy).Contents (Elt F) → (⟨S300000x3, .f32⟩ : BufTy).Contents (Elt F)),
    StableHlo.unary main_v197 main_v198 (fptosi 32 : (⟨S300000x3, .f32⟩ : BufTy).Contents (Elt F) → (⟨S300000x3, .i32⟩ : BufTy).Contents (Elt F)),
    StableHlo.nullary main_c_75 (constantI S_ 32 0#32),
    StableHlo.unary main_c_75 main_v199 (broadcastInDim S300000x3 ![] bcast_S_S300000x3 : (⟨S_, .i32⟩ : BufTy).Contents (Elt F) → (⟨S300000x3, .i32⟩ : BufTy).Contents (Elt F)),
    StableHlo.binary main_v198 main_v199 main_v200 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v201 (broadcastInDim S1x3 ![1] bcast_S3_S1x3_1 : (⟨S3, .i32⟩ : BufTy).Contents (Elt F) → (⟨S1x3, .i32⟩ : BufTy).Contents (Elt F)),
    StableHlo.unary main_v201 main_v202 (broadcastInDim S300000x3 ![0, 1] bcast_S1x3_S300000x3_0_1 : (⟨S1x3, .i32⟩ : BufTy).Contents (Elt F) → (⟨S300000x3, .i32⟩ : BufTy).Contents (Elt F)),
    StableHlo.binary main_v198 main_v202 main_v203 (cmpi .slt : (⟨S300000x3, .i32⟩ : BufTy).Contents (Elt F) → (⟨S300000x3, .i32⟩ : BufTy).Contents (Elt F) → (⟨S300000x3, .i1⟩ : BufTy).Contents (Elt F)),
    StableHlo.binary main_v200 main_v203 main_v204 (andi : (⟨S300000x3, .i1⟩ : BufTy).Contents (Elt F) → (⟨S300000x3, .i1⟩ : BufTy).Contents (Elt F) → (⟨S300000x3, .i1⟩ : BufTy).Contents (Elt F)),
    StableHlo.nullary main_c_76 (constantI S_ 1 1#1),
    StableHlo.binary main_v204 main_c_76 main_v205 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v198 main_v206 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v206 main_v207 rfl shapeCasts_S300000x1_S300000,
    StableHlo.nullary main_c_77 (constantI S_ 32 512#32),
    StableHlo.unary main_c_77 main_v208 (broadcastInDim S300000 ![] bcast_S_S300000 : (⟨S_, .i32⟩ : BufTy).Contents (Elt F) → (⟨S300000, .i32⟩ : BufTy).Contents (Elt F)),
    StableHlo.binary main_v207 main_v208 main_v209 (muli : (⟨S300000, .i32⟩ : BufTy).Contents (Elt F) → (⟨S300000, .i32⟩ : BufTy).Contents (Elt F) → (⟨S300000, .i32⟩ : BufTy).Contents (Elt F)),
    StableHlo.unary main_v198 main_v210 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v210 main_v211 rfl shapeCasts_S300000x1_S300000,
    StableHlo.binary main_v209 main_v211 main_v212 (addi : (⟨S300000, .i32⟩ : BufTy).Contents (Elt F) → (⟨S300000, .i32⟩ : BufTy).Contents (Elt F) → (⟨S300000, .i32⟩ : BufTy).Contents (Elt F)),
    StableHlo.nullary main_c_78 (constantI S_ 32 512#32),
    StableHlo.unary main_c_78 main_v213 (broadcastInDim S300000 ![] bcast_S_S300000 : (⟨S_, .i32⟩ : BufTy).Contents (Elt F) → (⟨S300000, .i32⟩ : BufTy).Contents (Elt F)),
    StableHlo.binary main_v212 main_v213 main_v214 (muli : (⟨S300000, .i32⟩ : BufTy).Contents (Elt F) → (⟨S300000, .i32⟩ : BufTy).Contents (Elt F) → (⟨S300000, .i32⟩ : BufTy).Contents (Elt F)),
    StableHlo.unary main_v198 main_v215 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v215 main_v216 rfl shapeCasts_S300000x1_S300000,
    StableHlo.binary main_v214 main_v216 main_v217 (addi : (⟨S300000, .i32⟩ : BufTy).Contents (Elt F) → (⟨S300000, .i32⟩ : BufTy).Contents (Elt F) → (⟨S300000, .i32⟩ : BufTy).Contents (Elt F)),
    StableHlo.nullary main_c_79 (constantI S_ 32 262144#32) ]
theorem pc4_2_sub : (pc4_2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub ..⟩
theorem pc4_2_fresh : (pc4_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc4_2_nw : (pc4_2 : List (HloOp τ sig (Elt F))).Forall fun op => (Proc.devRef .tc main_arg0 : DevRef τ sig) ∉ op.writes :=
  ⟨unary_nw _ _ _ (by decide), unary_nw _ _ _ (by decide), unary_nw _ _ _ (by decide), binary_nw _ _ _ _ (by decide), unary_nw _ _ _ (by decide), unary_nw _ _ _ (by decide), binary_nw _ _ _ _ (by decide), unary_nw _ _ _ (by decide), unary_nw _ _ _ (by decide), nullary_nw _ _ (by decide), unary_nw _ _ _ (by decide), binary_nw _ _ _ _ (by decide), unary_nw _ _ _ (by decide), unary_nw _ _ _ (by decide), binary_nw _ _ _ _ (by decide), binary_nw _ _ _ _ (by decide), nullary_nw _ _ (by decide), binary_nw _ _ _ _ (by decide), unary_nw _ _ _ (by decide), reshape_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide)⟩

/-- 3 operations of @where (main_call20), window 5, linOps1: %218 … %218. -/
abbrev pc5_0 : List (HloOp τ sig (Elt F)) :=
  [ StableHlo.TRef.unary (.of main_c_79 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S300000, .i32⟩) (broadcastInDim S300000 ![] bcast_S_S300000),
    StableHlo.TRef.ternary (.of main_v205 : StableHlo.TRef sig ⟨S300000, .i1⟩) (.of main_v217 : StableHlo.TRef sig ⟨S300000, .i32⟩) (.of main_call20_v1 : StableHlo.TRef sig ⟨S300000, .i32⟩) (.of main_v218 : StableHlo.TRef sig ⟨S300000, .i32⟩) select ]
theorem pc5_0_sub : (pc5_0 : List (HloOp τ sig (Elt F))).Forall fun op => op.bufs ⊆ StableHlo.tcRefs τ sig :=
  ⟨StableHlo.unary_bufs_sub .., StableHlo.unary_bufs_sub .., StableHlo.ternary_bufs_sub ..⟩
theorem pc5_0_fresh : (pc5_0 : List (HloOp τ sig (Elt F))).Forall fun op => op.fresh = ∅ :=
  ⟨rfl, rfl, rfl⟩
theorem pc5_0_nw : (pc5_0 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 24 operations of @main, window 5, tlOps1: %219 … %237. -/
abbrev pc5_1 : List (HloOp τ sig (Elt F)) :=
  [ StableHlo.nullary main_v219 (iotaInDim S300000 32 0),
    StableHlo.nullary main_c_80 (constantI S_ 32 300000#32),
    StableHlo.unary main_c_80 main_v220 (broadcastInDim S262145 ![] bcast_S_S262145 : (⟨S_, .i32⟩ : BufTy).Contents (Elt F) → (⟨S262145, .i32⟩ : BufTy).Contents (Elt F)),
    StableHlo.nullary main_c_81 (constantI S_ 32 0#32),
    StableHlo.unary main_c_81 main_v221 (broadcastInDim S300000 ![] bcast_S_S300000 : (⟨S_, .i32⟩ : BufTy).Contents (Elt F) → (⟨S300000, .i32⟩ : BufTy).Contents (Elt F)),
    StableHlo.binary main_v218 main_v221 main_v222 (cmpi .slt : (⟨S300000, .i32⟩ : BufTy).Contents (Elt F) → (⟨S300000, .i32⟩ : BufTy).Contents (Elt F) → (⟨S300000, .i1⟩ : BufTy).Contents (Elt F)),
    StableHlo.nullary main_c_82 (constantI S_ 32 262145#32),
    StableHlo.unary main_c_82 main_v223 (broadcastInDim S300000 ![] bcast_S_S300000 : (⟨S_, .i32⟩ : BufTy).Contents (Elt F) → (⟨S300000, .i32⟩ : BufTy).Contents (Elt F)),
    StableHlo.binary main_v218 main_v223 main_v224 (addi : (⟨S300000, .i32⟩ : BufTy).Contents (Elt F) → (⟨S300000, .i32⟩ : BufTy).Contents (Elt F) → (⟨S300000, .i32⟩ : BufTy).Contents (Elt F)),
    StableHlo.ternary main_v222 main_v224 main_v218 main_v225 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v225 main_v226 (broadcastInDim S300000x1 ![0] bcast_S300000_S300000x1_0 : (⟨S300000, .i32⟩ : BufTy).Contents (Elt F) → (⟨S300000x1, .i32⟩ : BufTy).Contents (Elt F)),
    StableHlo.ternary main_v220 main_v226 main_v219 main_v227 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_83 (constantI S_ 32 0#32),
    StableHlo.unary main_c_83 main_v228 (broadcastInDim S300000 ![] bcast_S_S300000 : (⟨S_, .i32⟩ : BufTy).Contents (Elt F) → (⟨S300000, .i32⟩ : BufTy).Contents (Elt F)),
    StableHlo.binary main_v218 main_v228 main_v229 (cmpi .slt : (⟨S300000, .i32⟩ : BufTy).Contents (Elt F) → (⟨S300000, .i32⟩ : BufTy).Contents (Elt F) → (⟨S300000, .i1⟩ : BufTy).Contents (Elt F)),
    StableHlo.nullary main_c_84 (constantI S_ 32 262145#32),
    StableHlo.unary main_c_84 main_v230 (broadcastInDim S300000 ![] bcast_S_S300000 : (⟨S_, .i32⟩ : BufTy).Contents (Elt F) → (⟨S300000, .i32⟩ : BufTy).Contents (Elt F)),
    StableHlo.binary main_v218 main_v230 main_v231 (addi : (⟨S300000, .i32⟩ : BufTy).Contents (Elt F) → (⟨S300000, .i32⟩ : BufTy).Contents (Elt F) → (⟨S300000, .i32⟩ : BufTy).Contents (Elt F)),
    StableHlo.ternary main_v229 main_v231 main_v218 main_v232 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v232 main_v233 (broadcastInDim S300000x1 ![0] bcast_S300000_S300000x1_0 : (⟨S300000, .i32⟩ : BufTy).Contents (Elt F) → (⟨S300000x1, .i32⟩ : BufTy).Contents (Elt F)),
    StableHlo.binary main_v227 main_v233 main_v234 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v234 main_v219 main_v235 (cmpi .eq : (⟨S300000, .i32⟩ : BufTy).Contents (Elt F) → (⟨S300000, .i32⟩ : BufTy).Contents (Elt F) → (⟨S300000, .i1⟩ : BufTy).Contents (Elt F)),
    StableHlo.binary main_v205 main_v235 main_v236 (andi : (⟨S300000, .i1⟩ : BufTy).Contents (Elt F) → (⟨S300000, .i1⟩ : BufTy).Contents (Elt F) → (⟨S300000, .i1⟩ : BufTy).Contents (Elt F)),
    StableHlo.unary main_v236 main_v237 ((extui 32 · natLt_1_32) : (⟨S300000, .i1⟩ : BufTy).Contents (Elt F) → (⟨S300000, .i32⟩ : BufTy).Contents (Elt F)) ]
theorem pc5_1_sub : (pc5_1 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩
theorem pc5_1_fresh : (pc5_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem pc5_1_nw : (pc5_1 : List (HloOp τ sig (Elt F))).Forall fun op => (Proc.devRef .tc main_arg0 : DevRef τ sig) ∉ op.writes :=
  ⟨nullary_nw _ _ (by decide), nullary_nw _ _ (by decide), unary_nw _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), binary_nw _ _ _ _ (by decide), binary_nw _ _ _ _ (by decide), unary_nw _ _ _ (by decide)⟩

/-- 3 operations of @cumsum (main_call21), window 5, tlOps1: %238 … %238. -/
abbrev pc5_2 : List (HloOp τ sig (Elt F)) :=
  [ StableHlo.TRef.nullary (.of main_call21_call0_c : StableHlo.TRef sig ⟨S_, .i32⟩) (constantI S_ 32 0#32),
    StableHlo.TRef.unary (.of main_call21_call0_c : StableHlo.TRef sig ⟨S_, .i32⟩) (.of main_call21_call0_v0 : StableHlo.TRef sig ⟨S_, .i32⟩) (broadcastInDim S_ ![] bcast_S_S_),
    StableHlo.TRef.binary (.of main_v237 : StableHlo.TRef sig ⟨S300000, .i32⟩) (.of main_call21_call0_v0 : StableHlo.TRef sig ⟨S_, .i32⟩) (.of main_v238 : StableHlo.TRef sig ⟨S300000, .i32⟩) (fun x v => Host.reduceWindow IntOp.addi ![300000] ![1] ![299999] ![0] x v reduceWindows_S300000_S300000_w300000s1p299999_0 h_S_) ]
theorem pc5_2_sub : (pc5_2 : List (HloOp τ sig (Elt F))).Forall fun op => op.bufs ⊆ StableHlo.tcRefs τ sig :=
  ⟨StableHlo.nullary_bufs_sub .., StableHlo.unary_bufs_sub .., StableHlo.binary_bufs_sub ..⟩
theorem pc5_2_fresh : (pc5_2 : List (HloOp τ sig (Elt F))).Forall fun op => op.fresh = ∅ :=
  ⟨rfl, rfl, rfl⟩
theorem pc5_2_nw : (pc5_2 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 6 operations of @main, window 5, tlOps1: %c_85 … %c_87. -/
abbrev pc5_3 : List (HloOp τ sig (Elt F)) :=
  [ StableHlo.nullary main_c_85 (constantI S_ 32 1#32),
    StableHlo.unary main_c_85 main_v239 (broadcastInDim S300000 ![] bcast_S_S300000 : (⟨S_, .i32⟩ : BufTy).Contents (Elt F) → (⟨S300000, .i32⟩ : BufTy).Contents (Elt F)),
    StableHlo.binary main_v238 main_v239 main_v240 (subi : (⟨S300000, .i32⟩ : BufTy).Contents (Elt F) → (⟨S300000, .i32⟩ : BufTy).Contents (Elt F) → (⟨S300000, .i32⟩ : BufTy).Contents (Elt F)),
    StableHlo.nullary main_c_86 (constantI S_ 32 30000#32),
    StableHlo.unary main_c_86 main_v241 (broadcastInDim S262145 ![] bcast_S_S262145 : (⟨S_, .i32⟩ : BufTy).Contents (Elt F) → (⟨S262145, .i32⟩ : BufTy).Contents (Elt F)),
    StableHlo.nullary main_c_87 (constantI S_ 32 262144#32) ]
theorem pc5_3_sub : (pc5_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub ..⟩
theorem pc5_3_fresh : (pc5_3 : List (HloOp τ sig (Elt F))).Forall fun op => op.fresh = ∅ :=
  ⟨rfl, rfl, rfl, rfl, rfl, rfl⟩
theorem pc5_3_nw : (pc5_3 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), nullary_nw _ _ (by decide)⟩

/-- 3 operations of @where (main_call22), window 5, tlOps1: %242 … %242. -/
abbrev pc5_4 : List (HloOp τ sig (Elt F)) :=
  [ StableHlo.TRef.unary (.of main_c_87 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S300000, .i32⟩) (broadcastInDim S300000 ![] bcast_S_S300000),
    StableHlo.TRef.ternary (.of main_v236 : StableHlo.TRef sig ⟨S300000, .i1⟩) (.of main_v218 : StableHlo.TRef sig ⟨S300000, .i32⟩) (.of main_call22_v1 : StableHlo.TRef sig ⟨S300000, .i32⟩) (.of main_v242 : StableHlo.TRef sig ⟨S300000, .i32⟩) select ]
theorem pc5_4_sub : (pc5_4 : List (HloOp τ sig (Elt F))).Forall fun op => op.bufs ⊆ StableHlo.tcRefs τ sig :=
  ⟨StableHlo.unary_bufs_sub .., StableHlo.unary_bufs_sub .., StableHlo.ternary_bufs_sub ..⟩
theorem pc5_4_fresh : (pc5_4 : List (HloOp τ sig (Elt F))).Forall fun op => op.fresh = ∅ :=
  ⟨rfl, rfl, rfl⟩
theorem pc5_4_nw : (pc5_4 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 5, tlOps1: %c_88 … %c_89. -/
abbrev pc5_5 : List (HloOp τ sig (Elt F)) :=
  [ StableHlo.nullary main_c_88 (constantI S_ 32 30000#32),
    StableHlo.unary main_c_88 main_v243 (broadcastInDim S300000 ![] bcast_S_S300000 : (⟨S_, .i32⟩ : BufTy).Contents (Elt F) → (⟨S300000, .i32⟩ : BufTy).Contents (Elt F)),
    StableHlo.binary main_v240 main_v243 main_v244 (minsi : (⟨S300000, .i32⟩ : BufTy).Contents (Elt F) → (⟨S300000, .i32⟩ : BufTy).Contents (Elt F) → (⟨S300000, .i32⟩ : BufTy).Contents (Elt F)),
    StableHlo.nullary main_c_89 (constantI S_ 32 30000#32) ]
theorem pc5_5_sub : (pc5_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc5_5_fresh : (pc5_5 : List (HloOp τ sig (Elt F))).Forall fun op => op.fresh = ∅ :=
  ⟨rfl, rfl, rfl, rfl⟩
theorem pc5_5_nw : (pc5_5 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 3 operations of @where (main_call23), window 5, tlOps1: %245 … %245. -/
abbrev pc5_6 : List (HloOp τ sig (Elt F)) :=
  [ StableHlo.TRef.unary (.of main_c_89 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S300000, .i32⟩) (broadcastInDim S300000 ![] bcast_S_S300000),
    StableHlo.TRef.ternary (.of main_v236 : StableHlo.TRef sig ⟨S300000, .i1⟩) (.of main_v244 : StableHlo.TRef sig ⟨S300000, .i32⟩) (.of main_call23_v1 : StableHlo.TRef sig ⟨S300000, .i32⟩) (.of main_v245 : StableHlo.TRef sig ⟨S300000, .i32⟩) select ]
theorem pc5_6_sub : (pc5_6 : List (HloOp τ sig (Elt F))).Forall fun op => op.bufs ⊆ StableHlo.tcRefs τ sig :=
  ⟨StableHlo.unary_bufs_sub .., StableHlo.unary_bufs_sub .., StableHlo.ternary_bufs_sub ..⟩
theorem pc5_6_fresh : (pc5_6 : List (HloOp τ sig (Elt F))).Forall fun op => op.fresh = ∅ :=
  ⟨rfl, rfl, rfl⟩
theorem pc5_6_nw : (pc5_6 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 19 operations of @main, window 5, tlOps1: %c_90 … %c_94. -/
abbrev pc5_7 : List (HloOp τ sig (Elt F)) :=
  [ StableHlo.nullary main_c_90 (constantI S_ 32 0#32),
    StableHlo.unary main_c_90 main_v246 (broadcastInDim S300000 ![] bcast_S_S300000 : (⟨S_, .i32⟩ : BufTy).Contents (Elt F) → (⟨S300000, .i32⟩ : BufTy).Contents (Elt F)),
    StableHlo.binary main_v242 main_v246 main_v247 (cmpi .slt : (⟨S300000, .i32⟩ : BufTy).Contents (Elt F) → (⟨S300000, .i32⟩ : BufTy).Contents (Elt F) → (⟨S300000, .i1⟩ : BufTy).Contents (Elt F)),
    StableHlo.nullary main_c_91 (constantI S_ 32 262145#32),
    StableHlo.unary main_c_91 main_v248 (broadcastInDim S300000 ![] bcast_S_S300000 : (⟨S_, .i32⟩ : BufTy).Contents (Elt F) → (⟨S300000, .i32⟩ : BufTy).Contents (Elt F)),
    StableHlo.binary main_v242 main_v248 main_v249 (addi : (⟨S300000, .i32⟩ : BufTy).Contents (Elt F) → (⟨S300000, .i32⟩ : BufTy).Contents (Elt F) → (⟨S300000, .i32⟩ : BufTy).Contents (Elt F)),
    StableHlo.ternary main_v247 main_v249 main_v242 main_v250 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v250 main_v251 (broadcastInDim S300000x1 ![0] bcast_S300000_S300000x1_0 : (⟨S300000, .i32⟩ : BufTy).Contents (Elt F) → (⟨S300000x1, .i32⟩ : BufTy).Contents (Elt F)),
    StableHlo.ternary main_v241 main_v251 main_v245 main_v252 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_92 (constantI S_ 32 0#32),
    StableHlo.unary main_c_92 main_v253 (broadcastInDim S300000 ![] bcast_S_S300000 : (⟨S_, .i32⟩ : BufTy).Contents (Elt F) → (⟨S300000, .i32⟩ : BufTy).Contents (Elt F)),
    StableHlo.binary main_v218 main_v253 main_v254 (cmpi .slt : (⟨S300000, .i32⟩ : BufTy).Contents (Elt F) → (⟨S300000, .i32⟩ : BufTy).Contents (Elt F) → (⟨S300000, .i1⟩ : BufTy).Contents (Elt F)),
    StableHlo.nullary main_c_93 (constantI S_ 32 262145#32),
    StableHlo.unary main_c_93 main_v255 (broadcastInDim S300000 ![] bcast_S_S300000 : (⟨S_, .i32⟩ : BufTy).Contents (Elt F) → (⟨S300000, .i32⟩ : BufTy).Contents (Elt F)),
    StableHlo.binary main_v218 main_v255 main_v256 (addi : (⟨S300000, .i32⟩ : BufTy).Contents (Elt F) → (⟨S300000, .i32⟩ : BufTy).Contents (Elt F) → (⟨S300000, .i32⟩ : BufTy).Contents (Elt F)),
    StableHlo.ternary main_v254 main_v256 main_v218 main_v257 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v257 main_v258 (broadcastInDim S300000x1 ![0] bcast_S300000_S300000x1_0 : (⟨S300000, .i32⟩ : BufTy).Contents (Elt F) → (⟨S300000x1, .i32⟩ : BufTy).Contents (Elt F)),
    StableHlo.binary main_v252 main_v258 main_v259 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_94 (constantI S_ 32 30000#32) ]
theorem pc5_7_sub : (pc5_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem pc5_7_fresh : (pc5_7 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pc5_7_nw : (pc5_7 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide)⟩

/-- 3 operations of @where (main_call24), window 5, tlOps1: %260 … %260. -/
abbrev pc5_8 : List (HloOp τ sig (Elt F)) :=
  [ StableHlo.TRef.unary (.of main_c_94 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S300000, .i32⟩) (broadcastInDim S300000 ![] bcast_S_S300000),
    StableHlo.TRef.ternary (.of main_v205 : StableHlo.TRef sig ⟨S300000, .i1⟩) (.of main_v259 : StableHlo.TRef sig ⟨S300000, .i32⟩) (.of main_call24_v1 : StableHlo.TRef sig ⟨S300000, .i32⟩) (.of main_v260 : StableHlo.TRef sig ⟨S300000, .i32⟩) select ]
theorem pc5_8_sub : (pc5_8 : List (HloOp τ sig (Elt F))).Forall fun op => op.bufs ⊆ StableHlo.tcRefs τ sig :=
  ⟨StableHlo.unary_bufs_sub .., StableHlo.unary_bufs_sub .., StableHlo.ternary_bufs_sub ..⟩
theorem pc5_8_fresh : (pc5_8 : List (HloOp τ sig (Elt F))).Forall fun op => op.fresh = ∅ :=
  ⟨rfl, rfl, rfl⟩
theorem pc5_8_nw : (pc5_8 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @argsort (main_call25), window 5, tlOps1: %261 … %261. -/
abbrev pc5_9 : List (HloOp τ sig (Elt F)) :=
  [ StableHlo.TRef.nullary (.of main_call25_v0 : StableHlo.TRef sig ⟨S300000, .i32⟩) (iotaInDim S300000 32 0),
    StableHlo.TRef.binary (.of main_v218 : StableHlo.TRef sig ⟨S300000, .i32⟩) (.of main_call25_v0 : StableHlo.TRef sig ⟨S300000, .i32⟩) (.of main_call25_v1_0 : StableHlo.TRef sig ⟨S300000, .i32⟩) (fun x y => (Host.sort2 S300000 0 comparator_i32_i32_d0 x y).1),
    StableHlo.TRef.binary (.of main_v218 : StableHlo.TRef sig ⟨S300000, .i32⟩) (.of main_call25_v0 : StableHlo.TRef sig ⟨S300000, .i32⟩) (.of main_v261 : StableHlo.TRef sig ⟨S300000, .i32⟩) (fun x y => (Host.sort2 S300000 0 comparator_i32_i32_d0 x y).2) ]
theorem pc5_9_sub : (pc5_9 : List (HloOp τ sig (Elt F))).Forall fun op => op.bufs ⊆ StableHlo.tcRefs τ sig :=
  ⟨StableHlo.nullary_bufs_sub .., StableHlo.binary_bufs_sub .., StableHlo.binary_bufs_sub ..⟩
theorem pc5_9_fresh : (pc5_9 : List (HloOp τ sig (Elt F))).Forall fun op => op.fresh = ∅ :=
  ⟨rfl, rfl, rfl⟩
theorem pc5_9_nw : (pc5_9 : List (HloOp τ sig (Elt F))).Forall fun op => (Proc.devRef .tc main_arg0 : DevRef τ sig) ∉ op.writes :=
  ⟨nullary_nw _ _ (by decide), binary_nw _ _ _ _ (by decide), binary_nw _ _ _ _ (by decide)⟩

/-- 1 operations of @main, window 5, tlOps1: %c_95 … %c_95. -/
abbrev pc5_10 : List (HloOp τ sig (Elt F)) :=
  [ StableHlo.nullary main_c_95 (constantI S_ 32 0#32) ]
theorem pc5_10_sub : (pc5_10 : List (HloOp τ sig (Elt F))).Forall fun op => op.bufs ⊆ StableHlo.tcRefs τ sig :=
  StableHlo.nullary_bufs_sub ..
theorem pc5_10_fresh : (pc5_10 : List (HloOp τ sig (Elt F))).Forall fun op => op.fresh = ∅ :=
  rfl
theorem pc5_10_nw : (pc5_10 : List (HloOp τ sig (Elt F))).Forall fun op => (Proc.devRef .tc main_arg0 : DevRef τ sig) ∉ op.writes :=
  nullary_nw _ _ (by decide)

/-- 15 operations of @main, window 6, tlOps1: %262 … %c_98. -/
abbrev pc6_0 : List (HloOp τ sig (Elt F)) :=
  [ StableHlo.unary main_c_95 main_v262 (broadcastInDim S300000 ![] bcast_S_S300000 : (⟨S_, .i32⟩ : BufTy).Contents (Elt F) → (⟨S300000, .i32⟩ : BufTy).Contents (Elt F)),
    StableHlo.binary main_v261 main_v262 main_v263 (cmpi .slt : (⟨S300000, .i32⟩ : BufTy).Contents (Elt F) → (⟨S300000, .i32⟩ : BufTy).Contents (Elt F) → (⟨S300000, .i1⟩ : BufTy).Contents (Elt F)),
    StableHlo.nullary main_c_96 (constantI S_ 32 300000#32),
    StableHlo.unary main_c_96 main_v264 (broadcastInDim S300000 ![] bcast_S_S300000 : (⟨S_, .i32⟩ : BufTy).Contents (Elt F) → (⟨S300000, .i32⟩ : BufTy).Contents (Elt F)),
    StableHlo.binary main_v261 main_v264 main_v265 (addi : (⟨S300000, .i32⟩ : BufTy).Contents (Elt F) → (⟨S300000, .i32⟩ : BufTy).Contents (Elt F) → (⟨S300000, .i32⟩ : BufTy).Contents (Elt F)),
    StableHlo.ternary main_v263 main_v265 main_v261 main_v266 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v266 main_v267 (broadcastInDim S300000x1 ![0] bcast_S300000_S300000x1_0 : (⟨S300000, .i32⟩ : BufTy).Contents (Elt F) → (⟨S300000x1, .i32⟩ : BufTy).Contents (Elt F)),
    StableHlo.binary main_v218 main_v267 main_v268 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_97 (constantI S_ 1 1#1),
    StableHlo.unary main_c_97 main_v269 (broadcastInDim S1 ![] bcast_S_S1 : (⟨S_, .i1⟩ : BufTy).Contents (Elt F) → (⟨S1, .i1⟩ : BufTy).Contents (Elt F)),
    StableHlo.unary main_v268 main_v270 ((extractStridedSlice S299999 ![1] · slices_S300000_S299999_1) : (⟨S300000, .i32⟩ : BufTy).Contents (Elt F) → (⟨S299999, .i32⟩ : BufTy).Contents (Elt F)),
    StableHlo.unary main_v268 main_v271 ((extractStridedSlice S299999 ![0] · slices_S300000_S299999_0) : (⟨S300000, .i32⟩ : BufTy).Contents (Elt F) → (⟨S299999, .i32⟩ : BufTy).Contents (Elt F)),
    StableHlo.binary main_v270 main_v271 main_v272 (cmpi .ne : (⟨S299999, .i32⟩ : BufTy).Contents (Elt F) → (⟨S299999, .i32⟩ : BufTy).Contents (Elt F) → (⟨S299999, .i1⟩ : BufTy).Contents (Elt F)),
    StableHlo.binary main_v269 main_v272 main_v273 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_98 (constantI S_ 32 0#32) ]
theorem pc6_0_sub : (pc6_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩
theorem pc6_0_fresh : (pc6_0 : List (HloOp τ sig (Elt F))).Forall fun op => op.fresh = ∅ :=
  ⟨rfl, rfl, rfl, rfl, rfl, rfl, rfl, rfl, rfl, rfl, rfl, rfl, rfl, rfl, rfl⟩
theorem pc6_0_nw : (pc6_0 : List (HloOp τ sig (Elt F))).Forall fun op => (Proc.devRef .tc main_arg0 : DevRef τ sig) ∉ op.writes :=
  ⟨unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide), unary_nw _ _ _ (by decide), unary_nw _ _ _ (by decide), unary_nw _ _ _ (by decide), binary_nw _ _ _ _ (by decide), binary_nw _ _ _ _ (by decide), nullary_nw _ _ (by decide)⟩

/-- 3 operations of @where (main_call26), window 6, tlOps1: %274 … %274. -/
abbrev pc6_1 : List (HloOp τ sig (Elt F)) :=
  [ StableHlo.TRef.unary (.of main_c_98 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S300000, .i32⟩) (broadcastInDim S300000 ![] bcast_S_S300000),
    StableHlo.TRef.ternary (.of main_v273 : StableHlo.TRef sig ⟨S300000, .i1⟩) (.of main_v219 : StableHlo.TRef sig ⟨S300000, .i32⟩) (.of main_call26_v1 : StableHlo.TRef sig ⟨S300000, .i32⟩) (.of main_v274 : StableHlo.TRef sig ⟨S300000, .i32⟩) select ]
theorem pc6_1_sub : (pc6_1 : List (HloOp τ sig (Elt F))).Forall fun op => op.bufs ⊆ StableHlo.tcRefs τ sig :=
  ⟨StableHlo.unary_bufs_sub .., StableHlo.unary_bufs_sub .., StableHlo.ternary_bufs_sub ..⟩
theorem pc6_1_fresh : (pc6_1 : List (HloOp τ sig (Elt F))).Forall fun op => op.fresh = ∅ :=
  ⟨rfl, rfl, rfl⟩
theorem pc6_1_nw : (pc6_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @cummax (main_call27), window 6, tlOps1: %275 … %275. -/
abbrev pc6_2 : List (HloOp τ sig (Elt F)) :=
  [ StableHlo.TRef.nullary (.of main_call27_c : StableHlo.TRef sig ⟨S_, .i32⟩) (constantI S_ 32 2147483648#32),
    StableHlo.TRef.unary (.of main_call27_c : StableHlo.TRef sig ⟨S_, .i32⟩) (.of main_call27_v0 : StableHlo.TRef sig ⟨S_, .i32⟩) (broadcastInDim S_ ![] bcast_S_S_),
    StableHlo.TRef.binary (.of main_v274 : StableHlo.TRef sig ⟨S300000, .i32⟩) (.of main_call27_v0 : StableHlo.TRef sig ⟨S_, .i32⟩) (.of main_v275 : StableHlo.TRef sig ⟨S300000, .i32⟩) (fun x v => Host.reduceWindow IntOp.maxsi ![300000] ![1] ![299999] ![0] x v reduceWindows_S300000_S300000_w300000s1p299999_0 h_S_) ]
theorem pc6_2_sub : (pc6_2 : List (HloOp τ sig (Elt F))).Forall fun op => op.bufs ⊆ StableHlo.tcRefs τ sig :=
  ⟨StableHlo.nullary_bufs_sub .., StableHlo.unary_bufs_sub .., StableHlo.binary_bufs_sub ..⟩
theorem pc6_2_fresh : (pc6_2 : List (HloOp τ sig (Elt F))).Forall fun op => op.fresh = ∅ :=
  ⟨rfl, rfl, rfl⟩
theorem pc6_2_nw : (pc6_2 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 21 operations of @main, window 6, tlOps1: %c_99 … %c_104. -/
abbrev pc6_3 : List (HloOp τ sig (Elt F)) :=
  [ StableHlo.nullary main_c_99 (constantI S_ 32 0#32),
    StableHlo.unary main_c_99 main_v276 (broadcastInDim S300000 ![] bcast_S_S300000 : (⟨S_, .i32⟩ : BufTy).Contents (Elt F) → (⟨S300000, .i32⟩ : BufTy).Contents (Elt F)),
    StableHlo.binary main_v219 main_v275 main_v277 (subi : (⟨S300000, .i32⟩ : BufTy).Contents (Elt F) → (⟨S300000, .i32⟩ : BufTy).Contents (Elt F) → (⟨S300000, .i32⟩ : BufTy).Contents (Elt F)),
    StableHlo.nullary main_c_100 (constantI S_ 32 0#32),
    StableHlo.unary main_c_100 main_v278 (broadcastInDim S300000 ![] bcast_S_S300000 : (⟨S_, .i32⟩ : BufTy).Contents (Elt F) → (⟨S300000, .i32⟩ : BufTy).Contents (Elt F)),
    StableHlo.binary main_v261 main_v278 main_v279 (cmpi .slt : (⟨S300000, .i32⟩ : BufTy).Contents (Elt F) → (⟨S300000, .i32⟩ : BufTy).Contents (Elt F) → (⟨S300000, .i1⟩ : BufTy).Contents (Elt F)),
    StableHlo.nullary main_c_101 (constantI S_ 32 300000#32),
    StableHlo.unary main_c_101 main_v280 (broadcastInDim S300000 ![] bcast_S_S300000 : (⟨S_, .i32⟩ : BufTy).Contents (Elt F) → (⟨S300000, .i32⟩ : BufTy).Contents (Elt F)),
    StableHlo.binary main_v261 main_v280 main_v281 (addi : (⟨S300000, .i32⟩ : BufTy).Contents (Elt F) → (⟨S300000, .i32⟩ : BufTy).Contents (Elt F) → (⟨S300000, .i32⟩ : BufTy).Contents (Elt F)),
    StableHlo.ternary main_v279 main_v281 main_v261 main_v282 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v282 main_v283 (broadcastInDim S300000x1 ![0] bcast_S300000_S300000x1_0 : (⟨S300000, .i32⟩ : BufTy).Contents (Elt F) → (⟨S300000x1, .i32⟩ : BufTy).Contents (Elt F)),
    StableHlo.ternary main_v276 main_v283 main_v277 main_v284 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_102 (constantI S_ 32 30000#32),
    StableHlo.unary main_c_102 main_v285 (broadcastInDim S300000 ![] bcast_S_S300000 : (⟨S_, .i32⟩ : BufTy).Contents (Elt F) → (⟨S300000, .i32⟩ : BufTy).Contents (Elt F)),
    StableHlo.binary main_v260 main_v285 main_v286 (cmpi .slt : (⟨S300000, .i32⟩ : BufTy).Contents (Elt F) → (⟨S300000, .i32⟩ : BufTy).Contents (Elt F) → (⟨S300000, .i1⟩ : BufTy).Contents (Elt F)),
    StableHlo.binary main_v205 main_v286 main_v287 (andi : (⟨S300000, .i1⟩ : BufTy).Contents (Elt F) → (⟨S300000, .i1⟩ : BufTy).Contents (Elt F) → (⟨S300000, .i1⟩ : BufTy).Contents (Elt F)),
    StableHlo.nullary main_c_103 (constantI S_ 32 20#32),
    StableHlo.unary main_c_103 main_v288 (broadcastInDim S300000 ![] bcast_S_S300000 : (⟨S_, .i32⟩ : BufTy).Contents (Elt F) → (⟨S300000, .i32⟩ : BufTy).Contents (Elt F)),
    StableHlo.binary main_v284 main_v288 main_v289 (cmpi .slt : (⟨S300000, .i32⟩ : BufTy).Contents (Elt F) → (⟨S300000, .i32⟩ : BufTy).Contents (Elt F) → (⟨S300000, .i1⟩ : BufTy).Contents (Elt F)),
    StableHlo.binary main_v287 main_v289 main_v290 (andi : (⟨S300000, .i1⟩ : BufTy).Contents (Elt F) → (⟨S300000, .i1⟩ : BufTy).Contents (Elt F) → (⟨S300000, .i1⟩ : BufTy).Contents (Elt F)),
    StableHlo.nullary main_c_104 (constantI S_ 32 30000#32) ]
theorem pc6_3_sub : (pc6_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem pc6_3_fresh : (pc6_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc6_3_nw : (pc6_3 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), binary_nw _ _ _ _ (by decide), nullary_nw _ _ (by decide)⟩

/-- 3 operations of @where (main_call28), window 6, tlOps1: %291 … %291. -/
abbrev pc6_4 : List (HloOp τ sig (Elt F)) :=
  [ StableHlo.TRef.unary (.of main_c_104 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S300000, .i32⟩) (broadcastInDim S300000 ![] bcast_S_S300000),
    StableHlo.TRef.ternary (.of main_v290 : StableHlo.TRef sig ⟨S300000, .i1⟩) (.of main_v260 : StableHlo.TRef sig ⟨S300000, .i32⟩) (.of main_call28_v1 : StableHlo.TRef sig ⟨S300000, .i32⟩) (.of main_v291 : StableHlo.TRef sig ⟨S300000, .i32⟩) select ]
theorem pc6_4_sub : (pc6_4 : List (HloOp τ sig (Elt F))).Forall fun op => op.bufs ⊆ StableHlo.tcRefs τ sig :=
  ⟨StableHlo.unary_bufs_sub .., StableHlo.unary_bufs_sub .., StableHlo.ternary_bufs_sub ..⟩
theorem pc6_4_fresh : (pc6_4 : List (HloOp τ sig (Elt F))).Forall fun op => op.fresh = ∅ :=
  ⟨rfl, rfl, rfl⟩
theorem pc6_4_nw : (pc6_4 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 1 operations of @main, window 6, tlOps1: %c_105 … %c_105. -/
abbrev pc6_5 : List (HloOp τ sig (Elt F)) :=
  [ StableHlo.nullary main_c_105 (constantI S_ 32 0#32) ]
theorem pc6_5_sub : (pc6_5 : List (HloOp τ sig (Elt F))).Forall fun op => op.bufs ⊆ StableHlo.tcRefs τ sig :=
  StableHlo.nullary_bufs_sub ..
theorem pc6_5_fresh : (pc6_5 : List (HloOp τ sig (Elt F))).Forall fun op => op.fresh = ∅ :=
  rfl
theorem pc6_5_nw : (pc6_5 : List (HloOp τ sig (Elt F))).Forall fun op => (Proc.devRef .tc main_arg0 : DevRef τ sig) ∉ op.writes :=
  nullary_nw _ _ (by decide)

/-- 3 operations of @where (main_call29), window 6, tlOps1: %292 … %292. -/
abbrev pc6_6 : List (HloOp τ sig (Elt F)) :=
  [ StableHlo.TRef.unary (.of main_c_105 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S300000, .i32⟩) (broadcastInDim S300000 ![] bcast_S_S300000),
    StableHlo.TRef.ternary (.of main_v290 : StableHlo.TRef sig ⟨S300000, .i1⟩) (.of main_v284 : StableHlo.TRef sig ⟨S300000, .i32⟩) (.of main_call29_v1 : StableHlo.TRef sig ⟨S300000, .i32⟩) (.of main_v292 : StableHlo.TRef sig ⟨S300000, .i32⟩) select ]
theorem pc6_6_sub : (pc6_6 : List (HloOp τ sig (Elt F))).Forall fun op => op.bufs ⊆ StableHlo.tcRefs τ sig :=
  ⟨StableHlo.unary_bufs_sub .., StableHlo.unary_bufs_sub .., StableHlo.ternary_bufs_sub ..⟩
theorem pc6_6_fresh : (pc6_6 : List (HloOp τ sig (Elt F))).Forall fun op => op.fresh = ∅ :=
  ⟨rfl, rfl, rfl⟩
theorem pc6_6_nw : (pc6_6 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 6, tlOps1: %cst_106 … %cst_107. -/
abbrev pc6_7 : List (HloOp τ sig (Elt F)) :=
  [ StableHlo.nullary main_cst_106 (constant S_ .f32 0x00000000#32),
    StableHlo.unary main_cst_106 main_v293 (broadcastInDim S30001x20x5 ![] bcast_S_S30001x20x5 : (⟨S_, .f32⟩ : BufTy).Contents (Elt F) → (⟨S30001x20x5, .f32⟩ : BufTy).Contents (Elt F)),
    StableHlo.unary main_v290 main_v294 (broadcastInDim S300000x1 ![0] bcast_S300000_S300000x1_0 : (⟨S300000, .i1⟩ : BufTy).Contents (Elt F) → (⟨S300000x1, .i1⟩ : BufTy).Contents (Elt F)),
    StableHlo.nullary main_cst_107 (constant S_ .f32 0x00000000#32) ]
theorem pc6_7_sub : (pc6_7 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub ..⟩
theorem pc6_7_fresh : (pc6_7 : List (HloOp τ sig (Elt F))).Forall fun op => op.fresh = ∅ :=
  ⟨rfl, rfl, rfl, rfl⟩
theorem pc6_7_nw : (pc6_7 : List (HloOp τ sig (Elt F))).Forall fun op => (Proc.devRef .tc main_arg0 : DevRef τ sig) ∉ op.writes :=
  ⟨nullary_nw _ _ (by decide), unary_nw _ _ _ (by decide), unary_nw _ _ _ (by decide), nullary_nw _ _ (by decide)⟩

/-- 4 operations of @where_1 (main_call30), window 6, tlOps1: %295 … %295. -/
abbrev pc6_8 : List (HloOp τ sig (Elt F)) :=
  [ StableHlo.TRef.unary (.of main_cst_107 : StableHlo.TRef sig ⟨S_, .f32⟩) (.of main_call30_v0 : StableHlo.TRef sig ⟨S_, .f32⟩) id,
    StableHlo.TRef.unary (.of main_v294 : StableHlo.TRef sig ⟨S300000x1, .i1⟩) (.of main_call30_v1 : StableHlo.TRef sig ⟨S300000x5, .i1⟩) (broadcastInDim S300000x5 ![0, 1] bcast_S300000x1_S300000x5_0_1),
    StableHlo.TRef.unary (.of main_call30_v0 : StableHlo.TRef sig ⟨S_, .f32⟩) (.of main_call30_v2 : StableHlo.TRef sig ⟨S300000x5, .f32⟩) (broadcastInDim S300000x5 ![] bcast_S_S300000x5),
    StableHlo.TRef.ternary (.of main_call30_v1 : StableHlo.TRef sig ⟨S300000x5, .i1⟩) (.of main_v189 : StableHlo.TRef sig ⟨S300000x5, .f32⟩) (.of main_call30_v2 : StableHlo.TRef sig ⟨S300000x5, .f32⟩) (.of main_v295 : StableHlo.TRef sig ⟨S300000x5, .f32⟩) select ]
theorem pc6_8_sub : (pc6_8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem pc6_8_fresh : (pc6_8 : List (HloOp τ sig (Elt F))).Forall fun op => op.fresh = ∅ :=
  ⟨rfl, rfl, rfl, rfl⟩
theorem pc6_8_nw : (pc6_8 : List (HloOp τ sig (Elt F))).Forall fun op => (Proc.devRef .tc main_arg0 : DevRef τ sig) ∉ op.writes :=
  ⟨unary_nw _ _ _ (by decide), unary_nw _ _ _ (by decide), unary_nw _ _ _ (by decide), ternary_nw _ _ _ _ _ (by decide)⟩

/-- 14 operations of @main, window 6, tlOps1: %c_108 … %305. -/
abbrev pc6_9 : List (HloOp τ sig (Elt F)) :=
  [ StableHlo.nullary main_c_108 (constantI S_ 32 0#32),
    StableHlo.unary main_c_108 main_v296 (broadcastInDim S300000 ![] bcast_S_S300000 : (⟨S_, .i32⟩ : BufTy).Contents (Elt F) → (⟨S300000, .i32⟩ : BufTy).Contents (Elt F)),
    StableHlo.binary main_v291 main_v296 main_v297 (cmpi .slt : (⟨S300000, .i32⟩ : BufTy).Contents (Elt F) → (⟨S300000, .i32⟩ : BufTy).Contents (Elt F) → (⟨S300000, .i1⟩ : BufTy).Contents (Elt F)),
    StableHlo.nullary main_c_109 (constantI S_ 32 30001#32),
    StableHlo.unary main_c_109 main_v298 (broadcastInDim S300000 ![] bcast_S_S300000 : (⟨S_, .i32⟩ : BufTy).Contents (Elt F) → (⟨S300000, .i32⟩ : BufTy).Contents (Elt F)),
    StableHlo.binary main_v291 main_v298 main_v299 (addi : (⟨S300000, .i32⟩ : BufTy).Contents (Elt F) → (⟨S300000, .i32⟩ : BufTy).Contents (Elt F) → (⟨S300000, .i32⟩ : BufTy).Contents (Elt F)),
    StableHlo.ternary main_v297 main_v299 main_v291 main_v300 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_110 (constantI S_ 32 0#32),
    StableHlo.unary main_c_110 main_v301 (broadcastInDim S300000 ![] bcast_S_S300000 : (⟨S_, .i32⟩ : BufTy).Contents (Elt F) → (⟨S300000, .i32⟩ : BufTy).Contents (Elt F)),
    StableHlo.binary main_v292 main_v301 main_v302 (cmpi .slt : (⟨S300000, .i32⟩ : BufTy).Contents (Elt F) → (⟨S300000, .i32⟩ : BufTy).Contents (Elt F) → (⟨S300000, .i1⟩ : BufTy).Contents (Elt F)),
    StableHlo.nullary main_c_111 (constantI S_ 32 20#32),
    StableHlo.unary main_c_111 main_v303 (broadcastInDim S300000 ![] bcast_S_S300000 : (⟨S_, .i32⟩ : BufTy).Contents (Elt F) → (⟨S300000, .i32⟩ : BufTy).Contents (Elt F)),
    StableHlo.binary main_v292 main_v303 main_v304 (addi : (⟨S300000, .i32⟩ : BufTy).Contents (Elt F) → (⟨S300000, .i32⟩ : BufTy).Contents (Elt F) → (⟨S300000, .i32⟩ : BufTy).Contents (Elt F)),
    StableHlo.ternary main_v302 main_v304 main_v292 main_v305 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ]
theorem pc6_9_sub : (pc6_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem pc6_9_fresh : (pc6_9 : List (HloOp τ sig (Elt F))).Forall fun op => op.fresh = ∅ :=
  ⟨rfl, rfl, rfl, rfl, rfl, rfl, rfl, rfl, rfl, rfl, rfl, rfl, rfl, rfl⟩
theorem pc6_9_nw : (pc6_9 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide)⟩

/-- 18 operations of @main, window 7, tlOps1: %306 … %c_115. -/
abbrev pc7_0 : List (HloOp τ sig (Elt F)) :=
  [ StableHlo.unary main_v300 main_v306 (broadcastInDim S300000x1 ![0] bcast_S300000_S300000x1_0 : (⟨S300000, .i32⟩ : BufTy).Contents (Elt F) → (⟨S300000x1, .i32⟩ : BufTy).Contents (Elt F)),
    StableHlo.unary main_v305 main_v307 (broadcastInDim S300000x1 ![0] bcast_S300000_S300000x1_0 : (⟨S300000, .i32⟩ : BufTy).Contents (Elt F) → (⟨S300000x1, .i32⟩ : BufTy).Contents (Elt F)),
    StableHlo.binary main_v306 main_v307 main_v308 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v293 main_v308 main_v295 main_v309 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v309 main_v310 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v290 main_v311 ((extui 32 · natLt_1_32) : (⟨S300000, .i1⟩ : BufTy).Contents (Elt F) → (⟨S300000, .i32⟩ : BufTy).Contents (Elt F)),
    StableHlo.nullary main_c_112 (constantI S_ 32 0#32),
    StableHlo.unary main_c_112 main_v312 (broadcastInDim S30001 ![] bcast_S_S30001 : (⟨S_, .i32⟩ : BufTy).Contents (Elt F) → (⟨S30001, .i32⟩ : BufTy).Contents (Elt F)),
    StableHlo.unary main_v291 main_v313 (broadcastInDim S300000x1 ![0] bcast_S300000_S300000x1_0 : (⟨S300000, .i32⟩ : BufTy).Contents (Elt F) → (⟨S300000x1, .i32⟩ : BufTy).Contents (Elt F)),
    StableHlo.ternary main_v312 main_v313 main_v311 main_v314 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v314 main_v315 ((extractStridedSlice S30000 ![0] · slices_S30001_S30000_0) : (⟨S30001, .i32⟩ : BufTy).Contents (Elt F) → (⟨S30000, .i32⟩ : BufTy).Contents (Elt F)),
    StableHlo.nullary main_c_113 (constantI S_ 32 4294967295#32),
    StableHlo.unary main_c_113 main_v316 (broadcastInDim S30001 ![] bcast_S_S30001 : (⟨S_, .i32⟩ : BufTy).Contents (Elt F) → (⟨S30001, .i32⟩ : BufTy).Contents (Elt F)),
    StableHlo.nullary main_c_114 (constantI S_ 32 30000#32),
    StableHlo.unary main_c_114 main_v317 (broadcastInDim S300000 ![] bcast_S_S300000 : (⟨S_, .i32⟩ : BufTy).Contents (Elt F) → (⟨S300000, .i32⟩ : BufTy).Contents (Elt F)),
    StableHlo.binary main_v240 main_v317 main_v318 (cmpi .slt : (⟨S300000, .i32⟩ : BufTy).Contents (Elt F) → (⟨S300000, .i32⟩ : BufTy).Contents (Elt F) → (⟨S300000, .i1⟩ : BufTy).Contents (Elt F)),
    StableHlo.binary main_v236 main_v318 main_v319 (andi : (⟨S300000, .i1⟩ : BufTy).Contents (Elt F) → (⟨S300000, .i1⟩ : BufTy).Contents (Elt F) → (⟨S300000, .i1⟩ : BufTy).Contents (Elt F)),
    StableHlo.nullary main_c_115 (constantI S_ 32 30000#32) ]
theorem pc7_0_sub : (pc7_0 : List (HloOp τ sig (Elt F))).Forall fun op => op.bufs ⊆ StableHlo.tcRefs τ sig :=
  ⟨StableHlo.unary_bufs_sub .., StableHlo.unary_bufs_sub .., StableHlo.binary_bufs_sub .., StableHlo.ternary_bufs_sub .., StableHlo.unary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub ..⟩
theorem pc7_0_fresh : (pc7_0 : List (HloOp τ sig (Elt F))).Forall fun op => op.fresh = ∅ :=
  ⟨rfl, rfl, rfl, rfl, rfl, rfl, rfl, rfl, rfl, rfl, rfl, rfl, rfl, rfl, rfl, rfl, rfl, rfl⟩
theorem pc7_0_nw : (pc7_0 : List (HloOp τ sig (Elt F))).Forall fun op => (Proc.devRef .tc main_arg0 : DevRef τ sig) ∉ op.writes :=
  ⟨unary_nw _ _ _ (by decide), unary_nw _ _ _ (by decide), binary_nw _ _ _ _ (by decide), ternary_nw _ _ _ _ _ (by decide), unary_nw _ _ _ (by decide), unary_nw _ _ _ (by decide), nullary_nw _ _ (by decide), unary_nw _ _ _ (by decide), unary_nw _ _ _ (by decide), ternary_nw _ _ _ _ _ (by decide), unary_nw _ _ _ (by decide), nullary_nw _ _ (by decide), unary_nw _ _ _ (by decide), nullary_nw _ _ (by decide), unary_nw _ _ _ (by decide), binary_nw _ _ _ _ (by decide), binary_nw _ _ _ _ (by decide), nullary_nw _ _ (by decide)⟩

/-- 3 operations of @where (main_call31), window 7, tlOps1: %320 … %320. -/
abbrev pc7_1 : List (HloOp τ sig (Elt F)) :=
  [ StableHlo.TRef.unary (.of main_c_115 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S300000, .i32⟩) (broadcastInDim S300000 ![] bcast_S_S300000),
    StableHlo.TRef.ternary (.of main_v319 : StableHlo.TRef sig ⟨S300000, .i1⟩) (.of main_v240 : StableHlo.TRef sig ⟨S300000, .i32⟩) (.of main_call31_v1 : StableHlo.TRef sig ⟨S300000, .i32⟩) (.of main_v320 : StableHlo.TRef sig ⟨S300000, .i32⟩) select ]
theorem pc7_1_sub : (pc7_1 : List (HloOp τ sig (Elt F))).Forall fun op => op.bufs ⊆ StableHlo.tcRefs τ sig :=
  ⟨StableHlo.unary_bufs_sub .., StableHlo.unary_bufs_sub .., StableHlo.ternary_bufs_sub ..⟩
theorem pc7_1_fresh : (pc7_1 : List (HloOp τ sig (Elt F))).Forall fun op => op.fresh = ∅ :=
  ⟨rfl, rfl, rfl⟩
theorem pc7_1_nw : (pc7_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 5 operations of @main, window 7, tlOps1: %c_116 … %c_117. -/
abbrev pc7_2 : List (HloOp τ sig (Elt F)) :=
  [ StableHlo.nullary main_c_116 (constantI S_ 32 30000#32),
    StableHlo.unary main_c_116 main_v321 (broadcastInDim S300000 ![] bcast_S_S300000 : (⟨S_, .i32⟩ : BufTy).Contents (Elt F) → (⟨S300000, .i32⟩ : BufTy).Contents (Elt F)),
    StableHlo.binary main_v240 main_v321 main_v322 (cmpi .slt : (⟨S300000, .i32⟩ : BufTy).Contents (Elt F) → (⟨S300000, .i32⟩ : BufTy).Contents (Elt F) → (⟨S300000, .i1⟩ : BufTy).Contents (Elt F)),
    StableHlo.binary main_v236 main_v322 main_v323 (andi : (⟨S300000, .i1⟩ : BufTy).Contents (Elt F) → (⟨S300000, .i1⟩ : BufTy).Contents (Elt F) → (⟨S300000, .i1⟩ : BufTy).Contents (Elt F)),
    StableHlo.nullary main_c_117 (constantI S_ 32 4294967295#32) ]
theorem pc7_2_sub : (pc7_2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub ..⟩
theorem pc7_2_fresh : (pc7_2 : List (HloOp τ sig (Elt F))).Forall fun op => op.fresh = ∅ :=
  ⟨rfl, rfl, rfl, rfl, rfl⟩
theorem pc7_2_nw : (pc7_2 : List (HloOp τ sig (Elt F))).Forall fun op => (Proc.devRef .tc main_arg0 : DevRef τ sig) ∉ op.writes :=
  ⟨nullary_nw _ _ (by decide), unary_nw _ _ _ (by decide), binary_nw _ _ _ _ (by decide), binary_nw _ _ _ _ (by decide), nullary_nw _ _ (by decide)⟩

/-- 3 operations of @where (main_call32), window 7, tlOps1: %324 … %324. -/
abbrev pc7_3 : List (HloOp τ sig (Elt F)) :=
  [ StableHlo.TRef.unary (.of main_c_117 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S300000, .i32⟩) (broadcastInDim S300000 ![] bcast_S_S300000),
    StableHlo.TRef.ternary (.of main_v323 : StableHlo.TRef sig ⟨S300000, .i1⟩) (.of main_v218 : StableHlo.TRef sig ⟨S300000, .i32⟩) (.of main_call32_v1 : StableHlo.TRef sig ⟨S300000, .i32⟩) (.of main_v324 : StableHlo.TRef sig ⟨S300000, .i32⟩) select ]
theorem pc7_3_sub : (pc7_3 : List (HloOp τ sig (Elt F))).Forall fun op => op.bufs ⊆ StableHlo.tcRefs τ sig :=
  ⟨StableHlo.unary_bufs_sub .., StableHlo.unary_bufs_sub .., StableHlo.ternary_bufs_sub ..⟩
theorem pc7_3_fresh : (pc7_3 : List (HloOp τ sig (Elt F))).Forall fun op => op.fresh = ∅ :=
  ⟨rfl, rfl, rfl⟩
theorem pc7_3_nw : (pc7_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 14 operations of @main, window 7, tlOps1: %c_118 … %c_121. -/
abbrev pc7_4 : List (HloOp τ sig (Elt F)) :=
  [ StableHlo.nullary main_c_118 (constantI S_ 32 0#32),
    StableHlo.unary main_c_118 main_v325 (broadcastInDim S300000 ![] bcast_S_S300000 : (⟨S_, .i32⟩ : BufTy).Contents (Elt F) → (⟨S300000, .i32⟩ : BufTy).Contents (Elt F)),
    StableHlo.binary main_v320 main_v325 main_v326 (cmpi .slt : (⟨S300000, .i32⟩ : BufTy).Contents (Elt F) → (⟨S300000, .i32⟩ : BufTy).Contents (Elt F) → (⟨S300000, .i1⟩ : BufTy).Contents (Elt F)),
    StableHlo.nullary main_c_119 (constantI S_ 32 30001#32),
    StableHlo.unary main_c_119 main_v327 (broadcastInDim S300000 ![] bcast_S_S300000 : (⟨S_, .i32⟩ : BufTy).Contents (Elt F) → (⟨S300000, .i32⟩ : BufTy).Contents (Elt F)),
    StableHlo.binary main_v320 main_v327 main_v328 (addi : (⟨S300000, .i32⟩ : BufTy).Contents (Elt F) → (⟨S300000, .i32⟩ : BufTy).Contents (Elt F) → (⟨S300000, .i32⟩ : BufTy).Contents (Elt F)),
    StableHlo.ternary main_v326 main_v328 main_v320 main_v329 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v329 main_v330 (broadcastInDim S300000x1 ![0] bcast_S300000_S300000x1_0 : (⟨S300000, .i32⟩ : BufTy).Contents (Elt F) → (⟨S300000x1, .i32⟩ : BufTy).Contents (Elt F)),
    StableHlo.ternary main_v316 main_v330 main_v324 main_v331 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v331 main_v332 ((extractStridedSlice S30000 ![0] · slices_S30001_S30000_0) : (⟨S30001, .i32⟩ : BufTy).Contents (Elt F) → (⟨S30000, .i32⟩ : BufTy).Contents (Elt F)),
    StableHlo.nullary main_c_120 (constantI S_ 32 0#32),
    StableHlo.unary main_c_120 main_v333 (broadcastInDim S30000 ![] bcast_S_S30000 : (⟨S_, .i32⟩ : BufTy).Contents (Elt F) → (⟨S30000, .i32⟩ : BufTy).Contents (Elt F)),
    StableHlo.binary main_v332 main_v333 main_v334 (cmpi .sge : (⟨S30000, .i32⟩ : BufTy).Contents (Elt F) → (⟨S30000, .i32⟩ : BufTy).Contents (Elt F) → (⟨S30000, .i1⟩ : BufTy).Contents (Elt F)),
    StableHlo.nullary main_c_121 (constantI S_ 32 262144#32) ]
theorem pc7_4_sub : (pc7_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub ..⟩
theorem pc7_4_fresh : (pc7_4 : List (HloOp τ sig (Elt F))).Forall fun op => op.fresh = ∅ :=
  ⟨rfl, rfl, rfl, rfl, rfl, rfl, rfl, rfl, rfl, rfl, rfl, rfl, rfl, rfl⟩
theorem pc7_4_nw : (pc7_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), unary_nw _ _ _ (by decide), nullary_nw _ _ (by decide), unary_nw _ _ _ (by decide), binary_nw _ _ _ _ (by decide), nullary_nw _ _ (by decide)⟩

/-- 17 operations of @floor_divide (main_call33), window 7, tlOps1: %335 … %335. -/
abbrev pc7_5 : List (HloOp τ sig (Elt F)) :=
  [ StableHlo.TRef.unary (.of main_c_121 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S30000, .i32⟩) (broadcastInDim S30000 ![] bcast_S_S30000),
    StableHlo.TRef.binary (.of main_v332 : StableHlo.TRef sig ⟨S30000, .i32⟩) (.of main_call33_v1 : StableHlo.TRef sig ⟨S30000, .i32⟩) (.of main_call33_v2 : StableHlo.TRef sig ⟨S30000, .i32⟩) Host.divsi,
    StableHlo.TRef.unary (.of main_v332 : StableHlo.TRef sig ⟨S30000, .i32⟩) (.of main_call33_v3 : StableHlo.TRef sig ⟨S30000, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S30000, .i32⟩) (broadcastInDim S30000 ![] bcast_S_S30000),
    StableHlo.TRef.binary (.of main_call33_v3 : StableHlo.TRef sig ⟨S30000, .i32⟩) (.of main_call33_v5 : StableHlo.TRef sig ⟨S30000, .i32⟩) (.of main_call33_v6 : StableHlo.TRef sig ⟨S30000, .i1⟩) (cmpi .ne),
    StableHlo.TRef.unary (.of main_call33_v0 : StableHlo.TRef sig ⟨S_, .i32⟩) (.of main_call33_v7 : StableHlo.TRef sig ⟨S30000, .i32⟩) (broadcastInDim S30000 ![] bcast_S_S30000),
    StableHlo.TRef.binary (.of main_v332 : StableHlo.TRef sig ⟨S30000, .i32⟩) (.of main_call33_v7 : StableHlo.TRef sig ⟨S30000, .i32⟩) (.of main_call33_v8 : StableHlo.TRef sig ⟨S30000, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S30000, .i32⟩) (broadcastInDim S30000 ![] bcast_S_S30000),
    StableHlo.TRef.binary (.of main_call33_v8 : StableHlo.TRef sig ⟨S30000, .i32⟩) (.of main_call33_v9 : StableHlo.TRef sig ⟨S30000, .i32⟩) (.of main_call33_v10 : StableHlo.TRef sig ⟨S30000, .i1⟩) (cmpi .ne),
    StableHlo.TRef.binary (.of main_call33_v6 : StableHlo.TRef sig ⟨S30000, .i1⟩) (.of main_call33_v10 : StableHlo.TRef sig ⟨S30000, .i1⟩) (.of main_call33_v11 : StableHlo.TRef sig ⟨S30000, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S30000, .i32⟩) (broadcastInDim S30000 ![] bcast_S_S30000),
    StableHlo.TRef.binary (.of main_call33_v2 : StableHlo.TRef sig ⟨S30000, .i32⟩) (.of main_call33_v12 : StableHlo.TRef sig ⟨S30000, .i32⟩) (.of main_call33_v13 : StableHlo.TRef sig ⟨S30000, .i32⟩) subi,
    StableHlo.TRef.ternary (.of main_call33_v11 : StableHlo.TRef sig ⟨S30000, .i1⟩) (.of main_call33_v13 : StableHlo.TRef sig ⟨S30000, .i32⟩) (.of main_call33_v2 : StableHlo.TRef sig ⟨S30000, .i32⟩) (.of main_v335 : StableHlo.TRef sig ⟨S30000, .i32⟩) select ]
theorem pc7_5_sub : (pc7_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc7_5_fresh : (pc7_5 : List (HloOp τ sig (Elt F))).Forall fun op => op.fresh = ∅ :=
  ⟨rfl, rfl, rfl, rfl, rfl, rfl, rfl, rfl, rfl, rfl, rfl, rfl, rfl, rfl, rfl, rfl, rfl⟩
theorem pc7_5_nw : (pc7_5 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 7, tlOps1: %c_122 … %c_122. -/
abbrev pc7_6 : List (HloOp τ sig (Elt F)) :=
  [ StableHlo.nullary main_c_122 (constantI S_ 32 4294967295#32) ]
theorem pc7_6_sub : (pc7_6 : List (HloOp τ sig (Elt F))).Forall fun op => op.bufs ⊆ StableHlo.tcRefs τ sig :=
  StableHlo.nullary_bufs_sub ..
theorem pc7_6_fresh : (pc7_6 : List (HloOp τ sig (Elt F))).Forall fun op => op.fresh = ∅ :=
  rfl
theorem pc7_6_nw : (pc7_6 : List (HloOp τ sig (Elt F))).Forall fun op => (Proc.devRef .tc main_arg0 : DevRef τ sig) ∉ op.writes :=
  nullary_nw _ _ (by decide)

/-- 3 operations of @where_3 (main_call34), window 7, tlOps1: %336 … %336. -/
abbrev pc7_7 : List (HloOp τ sig (Elt F)) :=
  [ StableHlo.TRef.unary (.of main_c_122 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S30000, .i32⟩) (broadcastInDim S30000 ![] bcast_S_S30000),
    StableHlo.TRef.ternary (.of main_v334 : StableHlo.TRef sig ⟨S30000, .i1⟩) (.of main_v335 : StableHlo.TRef sig ⟨S30000, .i32⟩) (.of main_call34_v1 : StableHlo.TRef sig ⟨S30000, .i32⟩) (.of main_v336 : StableHlo.TRef sig ⟨S30000, .i32⟩) select ]
theorem pc7_7_sub : (pc7_7 : List (HloOp τ sig (Elt F))).Forall fun op => op.bufs ⊆ StableHlo.tcRefs τ sig :=
  ⟨StableHlo.unary_bufs_sub .., StableHlo.unary_bufs_sub .., StableHlo.ternary_bufs_sub ..⟩
theorem pc7_7_fresh : (pc7_7 : List (HloOp τ sig (Elt F))).Forall fun op => op.fresh = ∅ :=
  ⟨rfl, rfl, rfl⟩
theorem pc7_7_nw : (pc7_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 7, tlOps1: %c_123 … %c_124. -/
abbrev pc7_8 : List (HloOp τ sig (Elt F)) :=
  [ StableHlo.nullary main_c_123 (constantI S_ 32 0#32),
    StableHlo.unary main_c_123 main_v337 (broadcastInDim S30000 ![] bcast_S_S30000 : (⟨S_, .i32⟩ : BufTy).Contents (Elt F) → (⟨S30000, .i32⟩ : BufTy).Contents (Elt F)),
    StableHlo.binary main_v332 main_v337 main_v338 (cmpi .sge : (⟨S30000, .i32⟩ : BufTy).Contents (Elt F) → (⟨S30000, .i32⟩ : BufTy).Contents (Elt F) → (⟨S30000, .i1⟩ : BufTy).Contents (Elt F)),
    StableHlo.nullary main_c_124 (constantI S_ 32 512#32) ]
theorem pc7_8_sub : (pc7_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc7_8_fresh : (pc7_8 : List (HloOp τ sig (Elt F))).Forall fun op => op.fresh = ∅ :=
  ⟨rfl, rfl, rfl, rfl⟩
theorem pc7_8_nw : (pc7_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 17 operations of @floor_divide (main_call35), window 7, tlOps1: %339 … %339. -/
abbrev pc7_9 : List (HloOp τ sig (Elt F)) :=
  [ StableHlo.TRef.unary (.of main_c_124 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S30000, .i32⟩) (broadcastInDim S30000 ![] bcast_S_S30000),
    StableHlo.TRef.binary (.of main_v332 : StableHlo.TRef sig ⟨S30000, .i32⟩) (.of main_call35_v1 : StableHlo.TRef sig ⟨S30000, .i32⟩) (.of main_call35_v2 : StableHlo.TRef sig ⟨S30000, .i32⟩) Host.divsi,
    StableHlo.TRef.unary (.of main_v332 : StableHlo.TRef sig ⟨S30000, .i32⟩) (.of main_call35_v3 : StableHlo.TRef sig ⟨S30000, .i32⟩) signi,
    StableHlo.TRef.unary (.of main_call35_v0 : StableHlo.TRef sig ⟨S_, .i32⟩) (.of main_call35_v4 : StableHlo.TRef sig ⟨S_, .i32⟩) signi,
    StableHlo.TRef.unary (.of main_call35_v4 : StableHlo.TRef sig ⟨S_, .i32⟩) (.of main_call35_v5 : StableHlo.TRef sig ⟨S30000, .i32⟩) (broadcastInDim S30000 ![] bcast_S_S30000),
    StableHlo.TRef.binary (.of main_call35_v3 : StableHlo.TRef sig ⟨S30000, .i32⟩) (.of main_call35_v5 : StableHlo.TRef sig ⟨S30000, .i32⟩) (.of main_call35_v6 : StableHlo.TRef sig ⟨S30000, .i1⟩) (cmpi .ne),
    StableHlo.TRef.unary (.of main_call35_v0 : StableHlo.TRef sig ⟨S_, .i32⟩) (.of main_call35_v7 : StableHlo.TRef sig ⟨S30000, .i32⟩) (broadcastInDim S30000 ![] bcast_S_S30000),
    StableHlo.TRef.binary (.of main_v332 : StableHlo.TRef sig ⟨S30000, .i32⟩) (.of main_call35_v7 : StableHlo.TRef sig ⟨S30000, .i32⟩) (.of main_call35_v8 : StableHlo.TRef sig ⟨S30000, .i32⟩) Host.remsi,
    StableHlo.TRef.nullary (.of main_call35_c : StableHlo.TRef sig ⟨S_, .i32⟩) (constantI S_ 32 0#32),
    StableHlo.TRef.unary (.of main_call35_c : StableHlo.TRef sig ⟨S_, .i32⟩) (.of main_call35_v9 : StableHlo.TRef sig ⟨S30000, .i32⟩) (broadcastInDim S30000 ![] bcast_S_S30000),
    StableHlo.TRef.binary (.of main_call35_v8 : StableHlo.TRef sig ⟨S30000, .i32⟩) (.of main_call35_v9 : StableHlo.TRef sig ⟨S30000, .i32⟩) (.of main_call35_v10 : StableHlo.TRef sig ⟨S30000, .i1⟩) (cmpi .ne),
    StableHlo.TRef.binary (.of main_call35_v6 : StableHlo.TRef sig ⟨S30000, .i1⟩) (.of main_call35_v10 : StableHlo.TRef sig ⟨S30000, .i1⟩) (.of main_call35_v11 : StableHlo.TRef sig ⟨S30000, .i1⟩) andi,
    StableHlo.TRef.nullary (.of main_call35_c_0 : StableHlo.TRef sig ⟨S_, .i32⟩) (constantI S_ 32 1#32),
    StableHlo.TRef.unary (.of main_call35_c_0 : StableHlo.TRef sig ⟨S_, .i32⟩) (.of main_call35_v12 : StableHlo.TRef sig ⟨S30000, .i32⟩) (broadcastInDim S30000 ![] bcast_S_S30000),
    StableHlo.TRef.binary (.of main_call35_v2 : StableHlo.TRef sig ⟨S30000, .i32⟩) (.of main_call35_v12 : StableHlo.TRef sig ⟨S30000, .i32⟩) (.of main_call35_v13 : StableHlo.TRef sig ⟨S30000, .i32⟩) subi,
    StableHlo.TRef.ternary (.of main_call35_v11 : StableHlo.TRef sig ⟨S30000, .i1⟩) (.of main_call35_v13 : StableHlo.TRef sig ⟨S30000, .i32⟩) (.of main_call35_v2 : StableHlo.TRef sig ⟨S30000, .i32⟩) (.of main_v339 : StableHlo.TRef sig ⟨S30000, .i32⟩) select ]
theorem pc7_9_sub : (pc7_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc7_9_fresh : (pc7_9 : List (HloOp τ sig (Elt F))).Forall fun op => op.fresh = ∅ :=
  ⟨rfl, rfl, rfl, rfl, rfl, rfl, rfl, rfl, rfl, rfl, rfl, rfl, rfl, rfl, rfl, rfl, rfl⟩
theorem pc7_9_nw : (pc7_9 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 7, tlOps1: %c_125 … %c_125. -/
abbrev pc7_10 : List (HloOp τ sig (Elt F)) :=
  [ StableHlo.nullary main_c_125 (constantI S_ 32 512#32) ]
theorem pc7_10_sub : (pc7_10 : List (HloOp τ sig (Elt F))).Forall fun op => op.bufs ⊆ StableHlo.tcRefs τ sig :=
  StableHlo.nullary_bufs_sub ..
theorem pc7_10_fresh : (pc7_10 : List (HloOp τ sig (Elt F))).Forall fun op => op.fresh = ∅ :=
  rfl
theorem pc7_10_nw : (pc7_10 : List (HloOp τ sig (Elt F))).Forall fun op => (Proc.devRef .tc main_arg0 : DevRef τ sig) ∉ op.writes :=
  nullary_nw _ _ (by decide)

/-- 21 operations of @remainder (main_call36), window 7, tlOps1: %340 … %340. -/
abbrev pc7_11 : List (HloOp τ sig (Elt F)) :=
  [ StableHlo.TRef.unary (.of main_c_125 : StableHlo.TRef sig ⟨S_, .i32⟩) (.of main_call36_v0 : StableHlo.TRef sig ⟨S_, .i32⟩) id,
    StableHlo.TRef.nullary (.of main_call36_c : StableHlo.TRef sig ⟨S_, .i32⟩) (constantI S_ 32 0#32),
    StableHlo.TRef.binary (.of main_call36_v0 : StableHlo.TRef sig ⟨S_, .i32⟩) (.of main_call36_c : StableHlo.TRef sig ⟨S_, .i32⟩) (.of main_call36_v1 : StableHlo.TRef sig ⟨S_, .i1⟩) (cmpi .eq),
    StableHlo.TRef.nullary (.of main_call36_c_0 : StableHlo.TRef sig ⟨S_, .i32⟩) (constantI S_ 32 1#32),
    StableHlo.TRef.ternary (.of main_call36_v1 : StableHlo.TRef sig ⟨S_, .i1⟩) (.of main_call36_c_0 : StableHlo.TRef sig ⟨S_, .i32⟩) (.of main_call36_v0 : StableHlo.TRef sig ⟨S_, .i32⟩) (.of main_call36_v2 : StableHlo.TRef sig ⟨S_, .i32⟩) select,
    StableHlo.TRef.unary (.of main_call36_v2 : StableHlo.TRef sig ⟨S_, .i32⟩) (.of main_call36_v3 : StableHlo.TRef sig ⟨S30000, .i32⟩) (broadcastInDim S30000 ![] bcast_S_S30000),
    StableHlo.TRef.binary (.of main_v339 : StableHlo.TRef sig ⟨S30000, .i32⟩) (.of main_call36_v3 : StableHlo.TRef sig ⟨S30000, .i32⟩) (.of main_call36_v4 : StableHlo.TRef sig ⟨S30000, .i32⟩) Host.remsi,
    StableHlo.TRef.nullary (.of main_call36_c_1 : StableHlo.TRef sig ⟨S_, .i32⟩) (constantI S_ 32 0#32),
    StableHlo.TRef.unary (.of main_call36_c_1 : StableHlo.TRef sig ⟨S_, .i32⟩) (.of main_call36_v5 : StableHlo.TRef sig ⟨S30000, .i32⟩) (broadcastInDim S30000 ![] bcast_S_S30000),
    StableHlo.TRef.binary (.of main_call36_v4 : StableHlo.TRef sig ⟨S30000, .i32⟩) (.of main_call36_v5 : StableHlo.TRef sig ⟨S30000, .i32⟩) (.of main_call36_v6 : StableHlo.TRef sig ⟨S30000, .i1⟩) (cmpi .ne),
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v7 : StableHlo.TRef sig ⟨S30000, .i32⟩) (broadcastInDim S30000 ![] bcast_S_S30000),
    StableHlo.TRef.binary (.of main_call36_v4 : StableHlo.TRef sig ⟨S30000, .i32⟩) (.of main_call36_v7 : StableHlo.TRef sig ⟨S30000, .i32⟩) (.of main_call36_v8 : StableHlo.TRef sig ⟨S30000, .i1⟩) (cmpi .slt),
    StableHlo.TRef.nullary (.of main_call36_c_3 : StableHlo.TRef sig ⟨S_, .i32⟩) (constantI S_ 32 0#32),
    StableHlo.TRef.binary (.of main_call36_v2 : StableHlo.TRef sig ⟨S_, .i32⟩) (.of main_call36_c_3 : StableHlo.TRef sig ⟨S_, .i32⟩) (.of main_call36_v9 : StableHlo.TRef sig ⟨S_, .i1⟩) (cmpi .slt),
    StableHlo.TRef.unary (.of main_call36_v9 : StableHlo.TRef sig ⟨S_, .i1⟩) (.of main_call36_v10 : StableHlo.TRef sig ⟨S30000, .i1⟩) (broadcastInDim S30000 ![] bcast_S_S30000),
    StableHlo.TRef.binary (.of main_call36_v8 : StableHlo.TRef sig ⟨S30000, .i1⟩) (.of main_call36_v10 : StableHlo.TRef sig ⟨S30000, .i1⟩) (.of main_call36_v11 : StableHlo.TRef sig ⟨S30000, .i1⟩) (cmpi .ne),
    StableHlo.TRef.binary (.of main_call36_v11 : StableHlo.TRef sig ⟨S30000, .i1⟩) (.of main_call36_v6 : StableHlo.TRef sig ⟨S30000, .i1⟩) (.of main_call36_v12 : StableHlo.TRef sig ⟨S30000, .i1⟩) andi,
    StableHlo.TRef.unary (.of main_call36_v2 : StableHlo.TRef sig ⟨S_, .i32⟩) (.of main_call36_v13 : StableHlo.TRef sig ⟨S30000, .i32⟩) (broadcastInDim S30000 ![] bcast_S_S30000),
    StableHlo.TRef.binary (.of main_call36_v4 : StableHlo.TRef sig ⟨S30000, .i32⟩) (.of main_call36_v13 : StableHlo.TRef sig ⟨S30000, .i32⟩) (.of main_call36_v14 : StableHlo.TRef sig ⟨S30000, .i32⟩) addi,
    StableHlo.TRef.ternary (.of main_call36_v12 : StableHlo.TRef sig ⟨S30000, .i1⟩) (.of main_call36_v14 : StableHlo.TRef sig ⟨S30000, .i32⟩) (.of main_call36_v4 : StableHlo.TRef sig ⟨S30000, .i32⟩) (.of main_v340 : StableHlo.TRef sig ⟨S30000, .i32⟩) select ]
theorem pc7_11_sub : (pc7_11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc7_11_fresh : (pc7_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc7_11_nw : (pc7_11 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 7, tlOps1: %c_126 … %c_126. -/
abbrev pc7_12 : List (HloOp τ sig (Elt F)) :=
  [ StableHlo.nullary main_c_126 (constantI S_ 32 4294967295#32) ]
theorem pc7_12_sub : (pc7_12 : List (HloOp τ sig (Elt F))).Forall fun op => op.bufs ⊆ StableHlo.tcRefs τ sig :=
  StableHlo.nullary_bufs_sub ..
theorem pc7_12_fresh : (pc7_12 : List (HloOp τ sig (Elt F))).Forall fun op => op.fresh = ∅ :=
  rfl
theorem pc7_12_nw : (pc7_12 : List (HloOp τ sig (Elt F))).Forall fun op => (Proc.devRef .tc main_arg0 : DevRef τ sig) ∉ op.writes :=
  nullary_nw _ _ (by decide)

/-- 3 operations of @where_3 (main_call37), window 7, tlOps1: %341 … %341. -/
abbrev pc7_13 : List (HloOp τ sig (Elt F)) :=
  [ StableHlo.TRef.unary (.of main_c_126 : StableHlo.TRef sig ⟨S_, .i32⟩) (.of main_call37_v0 : StableHlo.TRef sig ⟨S_, .i32⟩) id,
    StableHlo.TRef.unary (.of main_call37_v0 : StableHlo.TRef sig ⟨S_, .i32⟩) (.of main_call37_v1 : StableHlo.TRef sig ⟨S30000, .i32⟩) (broadcastInDim S30000 ![] bcast_S_S30000),
    StableHlo.TRef.ternary (.of main_v338 : StableHlo.TRef sig ⟨S30000, .i1⟩) (.of main_v340 : StableHlo.TRef sig ⟨S30000, .i32⟩) (.of main_call37_v1 : StableHlo.TRef sig ⟨S30000, .i32⟩) (.of main_v341 : StableHlo.TRef sig ⟨S30000, .i32⟩) select ]
theorem pc7_13_sub : (pc7_13 : List (HloOp τ sig (Elt F))).Forall fun op => op.bufs ⊆ StableHlo.tcRefs τ sig :=
  ⟨StableHlo.unary_bufs_sub .., StableHlo.unary_bufs_sub .., StableHlo.ternary_bufs_sub ..⟩
theorem pc7_13_fresh : (pc7_13 : List (HloOp τ sig (Elt F))).Forall fun op => op.fresh = ∅ :=
  ⟨rfl, rfl, rfl⟩
theorem pc7_13_nw : (pc7_13 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 7, tlOps1: %c_127 … %c_128. -/
abbrev pc7_14 : List (HloOp τ sig (Elt F)) :=
  [ StableHlo.nullary main_c_127 (constantI S_ 32 0#32),
    StableHlo.unary main_c_127 main_v342 (broadcastInDim S30000 ![] bcast_S_S30000 : (⟨S_, .i32⟩ : BufTy).Contents (Elt F) → (⟨S30000, .i32⟩ : BufTy).Contents (Elt F)),
    StableHlo.binary main_v332 main_v342 main_v343 (cmpi .sge : (⟨S30000, .i32⟩ : BufTy).Contents (Elt F) → (⟨S30000, .i32⟩ : BufTy).Contents (Elt F) → (⟨S30000, .i1⟩ : BufTy).Contents (Elt F)),
    StableHlo.nullary main_c_128 (constantI S_ 32 512#32) ]
theorem pc7_14_sub : (pc7_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc7_14_fresh : (pc7_14 : List (HloOp τ sig (Elt F))).Forall fun op => op.fresh = ∅ :=
  ⟨rfl, rfl, rfl, rfl⟩
theorem pc7_14_nw : (pc7_14 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 21 operations of @remainder (main_call38), window 7, tlOps1: %344 … %344. -/
abbrev pc7_15 : List (HloOp τ sig (Elt F)) :=
  [ StableHlo.TRef.unary (.of main_c_128 : StableHlo.TRef sig ⟨S_, .i32⟩) (.of main_call38_v0 : StableHlo.TRef sig ⟨S_, .i32⟩) id,
    StableHlo.TRef.nullary (.of main_call38_c : StableHlo.TRef sig ⟨S_, .i32⟩) (constantI S_ 32 0#32),
    StableHlo.TRef.binary (.of main_call38_v0 : StableHlo.TRef sig ⟨S_, .i32⟩) (.of main_call38_c : StableHlo.TRef sig ⟨S_, .i32⟩) (.of main_call38_v1 : StableHlo.TRef sig ⟨S_, .i1⟩) (cmpi .eq),
    StableHlo.TRef.nullary (.of main_call38_c_0 : StableHlo.TRef sig ⟨S_, .i32⟩) (constantI S_ 32 1#32),
    StableHlo.TRef.ternary (.of main_call38_v1 : StableHlo.TRef sig ⟨S_, .i1⟩) (.of main_call38_c_0 : StableHlo.TRef sig ⟨S_, .i32⟩) (.of main_call38_v0 : StableHlo.TRef sig ⟨S_, .i32⟩) (.of main_call38_v2 : StableHlo.TRef sig ⟨S_, .i32⟩) select,
    StableHlo.TRef.unary (.of main_call38_v2 : StableHlo.TRef sig ⟨S_, .i32⟩) (.of main_call38_v3 : StableHlo.TRef sig ⟨S30000, .i32⟩) (broadcastInDim S30000 ![] bcast_S_S30000),
    StableHlo.TRef.binary (.of main_v332 : StableHlo.TRef sig ⟨S30000, .i32⟩) (.of main_call38_v3 : StableHlo.TRef sig ⟨S30000, .i32⟩) (.of main_call38_v4 : StableHlo.TRef sig ⟨S30000, .i32⟩) Host.remsi,
    StableHlo.TRef.nullary (.of main_call38_c_1 : StableHlo.TRef sig ⟨S_, .i32⟩) (constantI S_ 32 0#32),
    StableHlo.TRef.unary (.of main_call38_c_1 : StableHlo.TRef sig ⟨S_, .i32⟩) (.of main_call38_v5 : StableHlo.TRef sig ⟨S30000, .i32⟩) (broadcastInDim S30000 ![] bcast_S_S30000),
    StableHlo.TRef.binary (.of main_call38_v4 : StableHlo.TRef sig ⟨S30000, .i32⟩) (.of main_call38_v5 : StableHlo.TRef sig ⟨S30000, .i32⟩) (.of main_call38_v6 : StableHlo.TRef sig ⟨S30000, .i1⟩) (cmpi .ne),
    StableHlo.TRef.nullary (.of main_call38_c_2 : StableHlo.TRef sig ⟨S_, .i32⟩) (constantI S_ 32 0#32),
    StableHlo.TRef.unary (.of main_call38_c_2 : StableHlo.TRef sig ⟨S_, .i32⟩) (.of main_call38_v7 : StableHlo.TRef sig ⟨S30000, .i32⟩) (broadcastInDim S30000 ![] bcast_S_S30000),
    StableHlo.TRef.binary (.of main_call38_v4 : StableHlo.TRef sig ⟨S30000, .i32⟩) (.of main_call38_v7 : StableHlo.TRef sig ⟨S30000, .i32⟩) (.of main_call38_v8 : StableHlo.TRef sig ⟨S30000, .i1⟩) (cmpi .slt),
    StableHlo.TRef.nullary (.of main_call38_c_3 : StableHlo.TRef sig ⟨S_, .i32⟩) (constantI S_ 32 0#32),
    StableHlo.TRef.binary (.of main_call38_v2 : StableHlo.TRef sig ⟨S_, .i32⟩) (.of main_call38_c_3 : StableHlo.TRef sig ⟨S_, .i32⟩) (.of main_call38_v9 : StableHlo.TRef sig ⟨S_, .i1⟩) (cmpi .slt),
    StableHlo.TRef.unary (.of main_call38_v9 : StableHlo.TRef sig ⟨S_, .i1⟩) (.of main_call38_v10 : StableHlo.TRef sig ⟨S30000, .i1⟩) (broadcastInDim S30000 ![] bcast_S_S30000),
    StableHlo.TRef.binary (.of main_call38_v8 : StableHlo.TRef sig ⟨S30000, .i1⟩) (.of main_call38_v10 : StableHlo.TRef sig ⟨S30000, .i1⟩) (.of main_call38_v11 : StableHlo.TRef sig ⟨S30000, .i1⟩) (cmpi .ne),
    StableHlo.TRef.binary (.of main_call38_v11 : StableHlo.TRef sig ⟨S30000, .i1⟩) (.of main_call38_v6 : StableHlo.TRef sig ⟨S30000, .i1⟩) (.of main_call38_v12 : StableHlo.TRef sig ⟨S30000, .i1⟩) andi,
    StableHlo.TRef.unary (.of main_call38_v2 : StableHlo.TRef sig ⟨S_, .i32⟩) (.of main_call38_v13 : StableHlo.TRef sig ⟨S30000, .i32⟩) (broadcastInDim S30000 ![] bcast_S_S30000),
    StableHlo.TRef.binary (.of main_call38_v4 : StableHlo.TRef sig ⟨S30000, .i32⟩) (.of main_call38_v13 : StableHlo.TRef sig ⟨S30000, .i32⟩) (.of main_call38_v14 : StableHlo.TRef sig ⟨S30000, .i32⟩) addi,
    StableHlo.TRef.ternary (.of main_call38_v12 : StableHlo.TRef sig ⟨S30000, .i1⟩) (.of main_call38_v14 : StableHlo.TRef sig ⟨S30000, .i32⟩) (.of main_call38_v4 : StableHlo.TRef sig ⟨S30000, .i32⟩) (.of main_v344 : StableHlo.TRef sig ⟨S30000, .i32⟩) select ]
theorem pc7_15_sub : (pc7_15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc7_15_fresh : (pc7_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc7_15_nw : (pc7_15 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 7, tlOps1: %c_129 … %c_129. -/
abbrev pc7_16 : List (HloOp τ sig (Elt F)) :=
  [ StableHlo.nullary main_c_129 (constantI S_ 32 4294967295#32) ]
theorem pc7_16_sub : (pc7_16 : List (HloOp τ sig (Elt F))).Forall fun op => op.bufs ⊆ StableHlo.tcRefs τ sig :=
  StableHlo.nullary_bufs_sub ..
theorem pc7_16_fresh : (pc7_16 : List (HloOp τ sig (Elt F))).Forall fun op => op.fresh = ∅ :=
  rfl
theorem pc7_16_nw : (pc7_16 : List (HloOp τ sig (Elt F))).Forall fun op => (Proc.devRef .tc main_arg0 : DevRef τ sig) ∉ op.writes :=
  nullary_nw _ _ (by decide)

/-- 3 operations of @where_3 (main_call39), window 7, tlOps1: %345 … %345. -/
abbrev pc7_17 : List (HloOp τ sig (Elt F)) :=
  [ StableHlo.TRef.unary (.of main_c_129 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S30000, .i32⟩) (broadcastInDim S30000 ![] bcast_S_S30000),
    StableHlo.TRef.ternary (.of main_v343 : StableHlo.TRef sig ⟨S30000, .i1⟩) (.of main_v344 : StableHlo.TRef sig ⟨S30000, .i32⟩) (.of main_call39_v1 : StableHlo.TRef sig ⟨S30000, .i32⟩) (.of main_v345 : StableHlo.TRef sig ⟨S30000, .i32⟩) select ]
theorem pc7_17_sub : (pc7_17 : List (HloOp τ sig (Elt F))).Forall fun op => op.bufs ⊆ StableHlo.tcRefs τ sig :=
  ⟨StableHlo.unary_bufs_sub .., StableHlo.unary_bufs_sub .., StableHlo.ternary_bufs_sub ..⟩
theorem pc7_17_fresh : (pc7_17 : List (HloOp τ sig (Elt F))).Forall fun op => op.fresh = ∅ :=
  ⟨rfl, rfl, rfl⟩
theorem pc7_17_nw : (pc7_17 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 2 operations of @main, window 7, tlOps1: %346 … %347. -/
abbrev pc7_18 : List (HloOp τ sig (Elt F)) :=
  [ StableHlo.unary main_v336 main_v346 (broadcastInDim S30000x1 ![0] bcast_S30000_S30000x1_0 : (⟨S30000, .i32⟩ : BufTy).Contents (Elt F) → (⟨S30000x1, .i32⟩ : BufTy).Contents (Elt F)),
    StableHlo.unary main_v341 main_v347 (broadcastInDim S30000x1 ![0] bcast_S30000_S30000x1_0 : (⟨S30000, .i32⟩ : BufTy).Contents (Elt F) → (⟨S30000x1, .i32⟩ : BufTy).Contents (Elt F)) ]
theorem pc7_18_sub : (pc7_18 : List (HloOp τ sig (Elt F))).Forall fun op => op.bufs ⊆ StableHlo.tcRefs τ sig :=
  ⟨StableHlo.unary_bufs_sub .., StableHlo.unary_bufs_sub ..⟩
theorem pc7_18_fresh : (pc7_18 : List (HloOp τ sig (Elt F))).Forall fun op => op.fresh = ∅ :=
  ⟨rfl, rfl⟩
theorem pc7_18_nw : (pc7_18 : List (HloOp τ sig (Elt F))).Forall fun op => (Proc.devRef .tc main_arg0 : DevRef τ sig) ∉ op.writes :=
  ⟨unary_nw _ _ _ (by decide), unary_nw _ _ _ (by decide)⟩

/-- 5 operations of @main, window 8, tlOps1: %348 … %351. -/
abbrev pc8_0 : List (HloOp τ sig (Elt F)) :=
  [ StableHlo.unary main_v345 main_v348 (broadcastInDim S30000x1 ![0] bcast_S30000_S30000x1_0 : (⟨S30000, .i32⟩ : BufTy).Contents (Elt F) → (⟨S30000x1, .i32⟩ : BufTy).Contents (Elt F)),
    StableHlo.nary ![main_v346, main_v347, main_v348] main_v349 (fun u => concatenate S30000x3 1 [⟨S30000x1, u 0⟩, ⟨S30000x1, u 1⟩, ⟨S30000x1, u 2⟩] concatenates_S30000x1_S30000x1_S30000x1_S30000x3_d1),
    StableHlo.nullary main_c_130 (constantI S_ 32 1#32),
    StableHlo.unary main_c_130 main_v350 (broadcastInDim S30000x1 ![] bcast_S_S30000x1 : (⟨S_, .i32⟩ : BufTy).Contents (Elt F) → (⟨S30000x1, .i32⟩ : BufTy).Contents (Elt F)),
    StableHlo.binary main_v350 main_v349 main_v351 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]
theorem pc8_0_sub : (pc8_0 : List (HloOp τ sig (Elt F))).Forall fun op => op.bufs ⊆ StableHlo.tcRefs τ sig :=
  ⟨StableHlo.unary_bufs_sub .., StableHlo.nary_bufs_sub .., StableHlo.nullary_bufs_sub .., StableHlo.unary_bufs_sub .., StableHlo.binary_bufs_sub ..⟩
theorem pc8_0_fresh : (pc8_0 : List (HloOp τ sig (Elt F))).Forall fun op => op.fresh = ∅ :=
  ⟨rfl, rfl, rfl, rfl, rfl⟩
theorem pc8_0_nw : (pc8_0 : List (HloOp τ sig (Elt F))).Forall fun op => (Proc.devRef .tc main_arg0 : DevRef τ sig) ∉ op.writes :=
  ⟨unary_nw _ _ _ (by decide), nary_nw _ _ _ _ (by decide), nullary_nw _ _ (by decide), unary_nw _ _ _ (by decide), binary_nw _ _ _ _ (by decide)⟩

/-- 23 operations of @main, window 8, ptsOps2: %352 … %365. -/
abbrev pc8_1 : List (HloOp τ sig (Elt F)) :=
  [ StableHlo.unary main_arg0 main_v352 ((extractStridedSlice S1x300000x5 ![2, 0, 0] · slices_S4x300000x5_S1x300000x5_2_0_0) : (⟨S4x300000x5, .f32⟩ : BufTy).Contents (Elt F) → (⟨S1x300000x5, .f32⟩ : BufTy).Contents (Elt F)),
    StableHlo.reshape main_v352 main_v353 rfl shapeCasts_S1x300000x5_S300000x5,
    StableHlo.nullary main_c_131 (constantI S_ 32 0#32),
    StableHlo.unary main_c_131 main_v354 (broadcastInDim S1 ![] bcast_S_S1 : (⟨S_, .i32⟩ : BufTy).Contents (Elt F) → (⟨S1, .i32⟩ : BufTy).Contents (Elt F)),
    StableHlo.nullary main_c_132 (constantI S_ 32 0#32),
    StableHlo.unary main_c_132 main_v355 (broadcastInDim S1 ![] bcast_S_S1 : (⟨S_, .i32⟩ : BufTy).Contents (Elt F) → (⟨S1, .i32⟩ : BufTy).Contents (Elt F)),
    StableHlo.binary main_v354 main_v355 main_v356 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_133 (constant S_ .f32 0x3F400000#32),
    StableHlo.ternary main_v353 main_v356 main_cst_133 main_v357 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_134 (constantI S_ 32 0#32),
    StableHlo.unary main_c_134 main_v358 (broadcastInDim S1 ![] bcast_S_S1 : (⟨S_, .i32⟩ : BufTy).Contents (Elt F) → (⟨S1, .i32⟩ : BufTy).Contents (Elt F)),
    StableHlo.nullary main_c_135 (constantI S_ 32 1#32),
    StableHlo.unary main_c_135 main_v359 (broadcastInDim S1 ![] bcast_S_S1 : (⟨S_, .i32⟩ : BufTy).Contents (Elt F) → (⟨S1, .i32⟩ : BufTy).Contents (Elt F)),
    StableHlo.binary main_v358 main_v359 main_v360 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_136 (constant S_ .f32 0x3E800000#32),
    StableHlo.ternary main_v357 main_v360 main_cst_136 main_v361 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_137 (constantI S_ 32 0#32),
    StableHlo.unary main_c_137 main_v362 (broadcastInDim S1 ![] bcast_S_S1 : (⟨S_, .i32⟩ : BufTy).Contents (Elt F) → (⟨S1, .i32⟩ : BufTy).Contents (Elt F)),
    StableHlo.nullary main_c_138 (constantI S_ 32 2#32),
    StableHlo.unary main_c_138 main_v363 (broadcastInDim S1 ![] bcast_S_S1 : (⟨S_, .i32⟩ : BufTy).Contents (Elt F) → (⟨S1, .i32⟩ : BufTy).Contents (Elt F)),
    StableHlo.binary main_v362 main_v363 main_v364 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_139 (constant S_ .f32 0x40000000#32),
    StableHlo.ternary main_v361 main_v364 main_cst_139 main_v365 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]
theorem pc8_1_sub : (pc8_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub ..⟩
theorem pc8_1_fresh : (pc8_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pc8_1_nw : (pc8_1 : List (HloOp τ sig (Elt F))).Forall fun op => (Proc.devRef .tc main_arg0 : DevRef τ sig) ∉ op.writes :=
  ⟨unary_nw _ _ _ (by decide), reshape_nw _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide)⟩

/-- 32 operations of @main, window 8, linOps2: %366 … %393. -/
abbrev pc8_2 : List (HloOp τ sig (Elt F)) :=
  [ StableHlo.unary main_v365 main_v366 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v367 (broadcastInDim S1x3 ![1] bcast_S3_S1x3_1 : (⟨S3, .f32⟩ : BufTy).Contents (Elt F) → (⟨S1x3, .f32⟩ : BufTy).Contents (Elt F)),
    StableHlo.unary main_v367 main_v368 (broadcastInDim S300000x3 ![0, 1] bcast_S1x3_S300000x3_0_1 : (⟨S1x3, .f32⟩ : BufTy).Contents (Elt F) → (⟨S300000x3, .f32⟩ : BufTy).Contents (Elt F)),
    StableHlo.binary main_v366 main_v368 main_v369 (subf : (⟨S300000x3, .f32⟩ : BufTy).Contents (Elt F) → (⟨S300000x3, .f32⟩ : BufTy).Contents (Elt F) → (⟨S300000x3, .f32⟩ : BufTy).Contents (Elt F)),
    StableHlo.unary main_cst_0 main_v370 (broadcastInDim S1x3 ![1] bcast_S3_S1x3_1 : (⟨S3, .f32⟩ : BufTy).Contents (Elt F) → (⟨S1x3, .f32⟩ : BufTy).Contents (Elt F)),
    StableHlo.unary main_v370 main_v371 (broadcastInDim S300000x3 ![0, 1] bcast_S1x3_S300000x3_0_1 : (⟨S1x3, .f32⟩ : BufTy).Contents (Elt F) → (⟨S300000x3, .f32⟩ : BufTy).Contents (Elt F)),
    StableHlo.binary main_v369 main_v371 main_v372 (Host.divf : (⟨S300000x3, .f32⟩ : BufTy).Contents (Elt F) → (⟨S300000x3, .f32⟩ : BufTy).Contents (Elt F) → (⟨S300000x3, .f32⟩ : BufTy).Contents (Elt F)),
    StableHlo.unary main_v372 main_v373 (Host.floor : (⟨S300000x3, .f32⟩ : BufTy).Contents (Elt F) → (⟨S300000x3, .f32⟩ : BufTy).Contents (Elt F)),
    StableHlo.unary main_v373 main_v374 (fptosi 32 : (⟨S300000x3, .f32⟩ : BufTy).Contents (Elt F) → (⟨S300000x3, .i32⟩ : BufTy).Contents (Elt F)),
    StableHlo.nullary main_c_140 (constantI S_ 32 0#32),
    StableHlo.unary main_c_140 main_v375 (broadcastInDim S300000x3 ![] bcast_S_S300000x3 : (⟨S_, .i32⟩ : BufTy).Contents (Elt F) → (⟨S300000x3, .i32⟩ : BufTy).Contents (Elt F)),
    StableHlo.binary main_v374 main_v375 main_v376 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v377 (broadcastInDim S1x3 ![1] bcast_S3_S1x3_1 : (⟨S3, .i32⟩ : BufTy).Contents (Elt F) → (⟨S1x3, .i32⟩ : BufTy).Contents (Elt F)),
    StableHlo.unary main_v377 main_v378 (broadcastInDim S300000x3 ![0, 1] bcast_S1x3_S300000x3_0_1 : (⟨S1x3, .i32⟩ : BufTy).Contents (Elt F) → (⟨S300000x3, .i32⟩ : BufTy).Contents (Elt F)),
    StableHlo.binary main_v374 main_v378 main_v379 (cmpi .slt : (⟨S300000x3, .i32⟩ : BufTy).Contents (Elt F) → (⟨S300000x3, .i32⟩ : BufTy).Contents (Elt F) → (⟨S300000x3, .i1⟩ : BufTy).Contents (Elt F)),
    StableHlo.binary main_v376 main_v379 main_v380 (andi : (⟨S300000x3, .i1⟩ : BufTy).Contents (Elt F) → (⟨S300000x3, .i1⟩ : BufTy).Contents (Elt F) → (⟨S300000x3, .i1⟩ : BufTy).Contents (Elt F)),
    StableHlo.nullary main_c_141 (constantI S_ 1 1#1),
    StableHlo.binary main_v380 main_c_141 main_v381 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v374 main_v382 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v382 main_v383 rfl shapeCasts_S300000x1_S300000,
    StableHlo.nullary main_c_142 (constantI S_ 32 512#32),
    StableHlo.unary main_c_142 main_v384 (broadcastInDim S300000 ![] bcast_S_S300000 : (⟨S_, .i32⟩ : BufTy).Contents (Elt F) → (⟨S300000, .i32⟩ : BufTy).Contents (Elt F)),
    StableHlo.binary main_v383 main_v384 main_v385 (muli : (⟨S300000, .i32⟩ : BufTy).Contents (Elt F) → (⟨S300000, .i32⟩ : BufTy).Contents (Elt F) → (⟨S300000, .i32⟩ : BufTy).Contents (Elt F)),
    StableHlo.unary main_v374 main_v386 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v386 main_v387 rfl shapeCasts_S300000x1_S300000,
    StableHlo.binary main_v385 main_v387 main_v388 (addi : (⟨S300000, .i32⟩ : BufTy).Contents (Elt F) → (⟨S300000, .i32⟩ : BufTy).Contents (Elt F) → (⟨S300000, .i32⟩ : BufTy).Contents (Elt F)),
    StableHlo.nullary main_c_143 (constantI S_ 32 512#32),
    StableHlo.unary main_c_143 main_v389 (broadcastInDim S300000 ![] bcast_S_S300000 : (⟨S_, .i32⟩ : BufTy).Contents (Elt F) → (⟨S300000, .i32⟩ : BufTy).Contents (Elt F)),
    StableHlo.binary main_v388 main_v389 main_v390 (muli : (⟨S300000, .i32⟩ : BufTy).Contents (Elt F) → (⟨S300000, .i32⟩ : BufTy).Contents (Elt F) → (⟨S300000, .i32⟩ : BufTy).Contents (Elt F)),
    StableHlo.unary main_v374 main_v391 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v391 main_v392 rfl shapeCasts_S300000x1_S300000,
    StableHlo.binary main_v390 main_v392 main_v393 (addi : (⟨S300000, .i32⟩ : BufTy).Contents (Elt F) → (⟨S300000, .i32⟩ : BufTy).Contents (Elt F) → (⟨S300000, .i32⟩ : BufTy).Contents (Elt F)) ]
theorem pc8_2_sub : (pc8_2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub ..⟩
theorem pc8_2_fresh : (pc8_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc8_2_nw : (pc8_2 : List (HloOp τ sig (Elt F))).Forall fun op => (Proc.devRef .tc main_arg0 : DevRef τ sig) ∉ op.writes :=
  ⟨unary_nw _ _ _ (by decide), unary_nw _ _ _ (by decide), unary_nw _ _ _ (by decide), binary_nw _ _ _ _ (by decide), unary_nw _ _ _ (by decide), unary_nw _ _ _ (by decide), binary_nw _ _ _ _ (by decide), unary_nw _ _ _ (by decide), unary_nw _ _ _ (by decide), nullary_nw _ _ (by decide), unary_nw _ _ _ (by decide), binary_nw _ _ _ _ (by decide), unary_nw _ _ _ (by decide), unary_nw _ _ _ (by decide), binary_nw _ _ _ _ (by decide), binary_nw _ _ _ _ (by decide), nullary_nw _ _ (by decide), binary_nw _ _ _ _ (by decide), unary_nw _ _ _ (by decide), reshape_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide), unary_nw _ _ _ (by decide), binary_nw _ _ _ _ (by decide), unary_nw _ _ _ (by decide), reshape_nw _ _ _ _ (by decide), binary_nw _ _ _ _ (by decide)⟩

/-- 1 operations of @main, window 9, linOps2: %c_144 … %c_144. -/
abbrev pc9_0 : List (HloOp τ sig (Elt F)) :=
  [ StableHlo.nullary main_c_144 (constantI S_ 32 262144#32) ]
theorem pc9_0_sub : (pc9_0 : List (HloOp τ sig (Elt F))).Forall fun op => op.bufs ⊆ StableHlo.tcRefs τ sig :=
  StableHlo.nullary_bufs_sub ..
theorem pc9_0_fresh : (pc9_0 : List (HloOp τ sig (Elt F))).Forall fun op => op.fresh = ∅ :=
  rfl
theorem pc9_0_nw : (pc9_0 : List (HloOp τ sig (Elt F))).Forall fun op => (Proc.devRef .tc main_arg0 : DevRef τ sig) ∉ op.writes :=
  nullary_nw _ _ (by decide)

/-- 3 operations of @where (main_call40), window 9, linOps2: %394 … %394. -/
abbrev pc9_1 : List (HloOp τ sig (Elt F)) :=
  [ StableHlo.TRef.unary (.of main_c_144 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S300000, .i32⟩) (broadcastInDim S300000 ![] bcast_S_S300000),
    StableHlo.TRef.ternary (.of main_v381 : StableHlo.TRef sig ⟨S300000, .i1⟩) (.of main_v393 : StableHlo.TRef sig ⟨S300000, .i32⟩) (.of main_call40_v1 : StableHlo.TRef sig ⟨S300000, .i32⟩) (.of main_v394 : StableHlo.TRef sig ⟨S300000, .i32⟩) select ]
theorem pc9_1_sub : (pc9_1 : List (HloOp τ sig (Elt F))).Forall fun op => op.bufs ⊆ StableHlo.tcRefs τ sig :=
  ⟨StableHlo.unary_bufs_sub .., StableHlo.unary_bufs_sub .., StableHlo.ternary_bufs_sub ..⟩
theorem pc9_1_fresh : (pc9_1 : List (HloOp τ sig (Elt F))).Forall fun op => op.fresh = ∅ :=
  ⟨rfl, rfl, rfl⟩
theorem pc9_1_nw : (pc9_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 24 operations of @main, window 9, tlOps2: %395 … %413. -/
abbrev pc9_2 : List (HloOp τ sig (Elt F)) :=
  [ StableHlo.nullary main_v395 (iotaInDim S300000 32 0),
    StableHlo.nullary main_c_145 (constantI S_ 32 300000#32),
    StableHlo.unary main_c_145 main_v396 (broadcastInDim S262145 ![] bcast_S_S262145 : (⟨S_, .i32⟩ : BufTy).Contents (Elt F) → (⟨S262145, .i32⟩ : BufTy).Contents (Elt F)),
    StableHlo.nullary main_c_146 (constantI S_ 32 0#32),
    StableHlo.unary main_c_146 main_v397 (broadcastInDim S300000 ![] bcast_S_S300000 : (⟨S_, .i32⟩ : BufTy).Contents (Elt F) → (⟨S300000, .i32⟩ : BufTy).Contents (Elt F)),
    StableHlo.binary main_v394 main_v397 main_v398 (cmpi .slt : (⟨S300000, .i32⟩ : BufTy).Contents (Elt F) → (⟨S300000, .i32⟩ : BufTy).Contents (Elt F) → (⟨S300000, .i1⟩ : BufTy).Contents (Elt F)),
    StableHlo.nullary main_c_147 (constantI S_ 32 262145#32),
    StableHlo.unary main_c_147 main_v399 (broadcastInDim S300000 ![] bcast_S_S300000 : (⟨S_, .i32⟩ : BufTy).Contents (Elt F) → (⟨S300000, .i32⟩ : BufTy).Contents (Elt F)),
    StableHlo.binary main_v394 main_v399 main_v400 (addi : (⟨S300000, .i32⟩ : BufTy).Contents (Elt F) → (⟨S300000, .i32⟩ : BufTy).Contents (Elt F) → (⟨S300000, .i32⟩ : BufTy).Contents (Elt F)),
    StableHlo.ternary main_v398 main_v400 main_v394 main_v401 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v401 main_v402 (broadcastInDim S300000x1 ![0] bcast_S300000_S300000x1_0 : (⟨S300000, .i32⟩ : BufTy).Contents (Elt F) → (⟨S300000x1, .i32⟩ : BufTy).Contents (Elt F)),
    StableHlo.ternary main_v396 main_v402 main_v395 main_v403 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_148 (constantI S_ 32 0#32),
    StableHlo.unary main_c_148 main_v404 (broadcastInDim S300000 ![] bcast_S_S300000 : (⟨S_, .i32⟩ : BufTy).Contents (Elt F) → (⟨S300000, .i32⟩ : BufTy).Contents (Elt F)),
    StableHlo.binary main_v394 main_v404 main_v405 (cmpi .slt : (⟨S300000, .i32⟩ : BufTy).Contents (Elt F) → (⟨S300000, .i32⟩ : BufTy).Contents (Elt F) → (⟨S300000, .i1⟩ : BufTy).Contents (Elt F)),
    StableHlo.nullary main_c_149 (constantI S_ 32 262145#32),
    StableHlo.unary main_c_149 main_v406 (broadcastInDim S300000 ![] bcast_S_S300000 : (⟨S_, .i32⟩ : BufTy).Contents (Elt F) → (⟨S300000, .i32⟩ : BufTy).Contents (Elt F)),
    StableHlo.binary main_v394 main_v406 main_v407 (addi : (⟨S300000, .i32⟩ : BufTy).Contents (Elt F) → (⟨S300000, .i32⟩ : BufTy).Contents (Elt F) → (⟨S300000, .i32⟩ : BufTy).Contents (Elt F)),
    StableHlo.ternary main_v405 main_v407 main_v394 main_v408 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v408 main_v409 (broadcastInDim S300000x1 ![0] bcast_S300000_S300000x1_0 : (⟨S300000, .i32⟩ : BufTy).Contents (Elt F) → (⟨S300000x1, .i32⟩ : BufTy).Contents (Elt F)),
    StableHlo.binary main_v403 main_v409 main_v410 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v410 main_v395 main_v411 (cmpi .eq : (⟨S300000, .i32⟩ : BufTy).Contents (Elt F) → (⟨S300000, .i32⟩ : BufTy).Contents (Elt F) → (⟨S300000, .i1⟩ : BufTy).Contents (Elt F)),
    StableHlo.binary main_v381 main_v411 main_v412 (andi : (⟨S300000, .i1⟩ : BufTy).Contents (Elt F) → (⟨S300000, .i1⟩ : BufTy).Contents (Elt F) → (⟨S300000, .i1⟩ : BufTy).Contents (Elt F)),
    StableHlo.unary main_v412 main_v413 ((extui 32 · natLt_1_32) : (⟨S300000, .i1⟩ : BufTy).Contents (Elt F) → (⟨S300000, .i32⟩ : BufTy).Contents (Elt F)) ]
theorem pc9_2_sub : (pc9_2 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩
theorem pc9_2_fresh : (pc9_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem pc9_2_nw : (pc9_2 : List (HloOp τ sig (Elt F))).Forall fun op => (Proc.devRef .tc main_arg0 : DevRef τ sig) ∉ op.writes :=
  ⟨nullary_nw _ _ (by decide), nullary_nw _ _ (by decide), unary_nw _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), binary_nw _ _ _ _ (by decide), binary_nw _ _ _ _ (by decide), unary_nw _ _ _ (by decide)⟩

/-- 3 operations of @cumsum (main_call41), window 9, tlOps2: %414 … %414. -/
abbrev pc9_3 : List (HloOp τ sig (Elt F)) :=
  [ StableHlo.TRef.nullary (.of main_call41_call0_c : StableHlo.TRef sig ⟨S_, .i32⟩) (constantI S_ 32 0#32),
    StableHlo.TRef.unary (.of main_call41_call0_c : StableHlo.TRef sig ⟨S_, .i32⟩) (.of main_call41_call0_v0 : StableHlo.TRef sig ⟨S_, .i32⟩) (broadcastInDim S_ ![] bcast_S_S_),
    StableHlo.TRef.binary (.of main_v413 : StableHlo.TRef sig ⟨S300000, .i32⟩) (.of main_call41_call0_v0 : StableHlo.TRef sig ⟨S_, .i32⟩) (.of main_v414 : StableHlo.TRef sig ⟨S300000, .i32⟩) (fun x v => Host.reduceWindow IntOp.addi ![300000] ![1] ![299999] ![0] x v reduceWindows_S300000_S300000_w300000s1p299999_0 h_S_) ]
theorem pc9_3_sub : (pc9_3 : List (HloOp τ sig (Elt F))).Forall fun op => op.bufs ⊆ StableHlo.tcRefs τ sig :=
  ⟨StableHlo.nullary_bufs_sub .., StableHlo.unary_bufs_sub .., StableHlo.binary_bufs_sub ..⟩
theorem pc9_3_fresh : (pc9_3 : List (HloOp τ sig (Elt F))).Forall fun op => op.fresh = ∅ :=
  ⟨rfl, rfl, rfl⟩
theorem pc9_3_nw : (pc9_3 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 6 operations of @main, window 9, tlOps2: %c_150 … %c_152. -/
abbrev pc9_4 : List (HloOp τ sig (Elt F)) :=
  [ StableHlo.nullary main_c_150 (constantI S_ 32 1#32),
    StableHlo.unary main_c_150 main_v415 (broadcastInDim S300000 ![] bcast_S_S300000 : (⟨S_, .i32⟩ : BufTy).Contents (Elt F) → (⟨S300000, .i32⟩ : BufTy).Contents (Elt F)),
    StableHlo.binary main_v414 main_v415 main_v416 (subi : (⟨S300000, .i32⟩ : BufTy).Contents (Elt F) → (⟨S300000, .i32⟩ : BufTy).Contents (Elt F) → (⟨S300000, .i32⟩ : BufTy).Contents (Elt F)),
    StableHlo.nullary main_c_151 (constantI S_ 32 30000#32),
    StableHlo.unary main_c_151 main_v417 (broadcastInDim S262145 ![] bcast_S_S262145 : (⟨S_, .i32⟩ : BufTy).Contents (Elt F) → (⟨S262145, .i32⟩ : BufTy).Contents (Elt F)),
    StableHlo.nullary main_c_152 (constantI S_ 32 262144#32) ]
theorem pc9_4_sub : (pc9_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub ..⟩
theorem pc9_4_fresh : (pc9_4 : List (HloOp τ sig (Elt F))).Forall fun op => op.fresh = ∅ :=
  ⟨rfl, rfl, rfl, rfl, rfl, rfl⟩
theorem pc9_4_nw : (pc9_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), nullary_nw _ _ (by decide)⟩

/-- 3 operations of @where (main_call42), window 9, tlOps2: %418 … %418. -/
abbrev pc9_5 : List (HloOp τ sig (Elt F)) :=
  [ StableHlo.TRef.unary (.of main_c_152 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S300000, .i32⟩) (broadcastInDim S300000 ![] bcast_S_S300000),
    StableHlo.TRef.ternary (.of main_v412 : StableHlo.TRef sig ⟨S300000, .i1⟩) (.of main_v394 : StableHlo.TRef sig ⟨S300000, .i32⟩) (.of main_call42_v1 : StableHlo.TRef sig ⟨S300000, .i32⟩) (.of main_v418 : StableHlo.TRef sig ⟨S300000, .i32⟩) select ]
theorem pc9_5_sub : (pc9_5 : List (HloOp τ sig (Elt F))).Forall fun op => op.bufs ⊆ StableHlo.tcRefs τ sig :=
  ⟨StableHlo.unary_bufs_sub .., StableHlo.unary_bufs_sub .., StableHlo.ternary_bufs_sub ..⟩
theorem pc9_5_fresh : (pc9_5 : List (HloOp τ sig (Elt F))).Forall fun op => op.fresh = ∅ :=
  ⟨rfl, rfl, rfl⟩
theorem pc9_5_nw : (pc9_5 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 9, tlOps2: %c_153 … %c_154. -/
abbrev pc9_6 : List (HloOp τ sig (Elt F)) :=
  [ StableHlo.nullary main_c_153 (constantI S_ 32 30000#32),
    StableHlo.unary main_c_153 main_v419 (broadcastInDim S300000 ![] bcast_S_S300000 : (⟨S_, .i32⟩ : BufTy).Contents (Elt F) → (⟨S300000, .i32⟩ : BufTy).Contents (Elt F)),
    StableHlo.binary main_v416 main_v419 main_v420 (minsi : (⟨S300000, .i32⟩ : BufTy).Contents (Elt F) → (⟨S300000, .i32⟩ : BufTy).Contents (Elt F) → (⟨S300000, .i32⟩ : BufTy).Contents (Elt F)),
    StableHlo.nullary main_c_154 (constantI S_ 32 30000#32) ]
theorem pc9_6_sub : (pc9_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc9_6_fresh : (pc9_6 : List (HloOp τ sig (Elt F))).Forall fun op => op.fresh = ∅ :=
  ⟨rfl, rfl, rfl, rfl⟩
theorem pc9_6_nw : (pc9_6 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 3 operations of @where (main_call43), window 9, tlOps2: %421 … %421. -/
abbrev pc9_7 : List (HloOp τ sig (Elt F)) :=
  [ StableHlo.TRef.unary (.of main_c_154 : StableHlo.TRef sig ⟨S_, .i32⟩) (.of main_call43_v0 : StableHlo.TRef sig ⟨S_, .i32⟩) id,
    StableHlo.TRef.unary (.of main_call43_v0 : StableHlo.TRef sig ⟨S_, .i32⟩) (.of main_call43_v1 : StableHlo.TRef sig ⟨S300000, .i32⟩) (broadcastInDim S300000 ![] bcast_S_S300000),
    StableHlo.TRef.ternary (.of main_v412 : StableHlo.TRef sig ⟨S300000, .i1⟩) (.of main_v420 : StableHlo.TRef sig ⟨S300000, .i32⟩) (.of main_call43_v1 : StableHlo.TRef sig ⟨S300000, .i32⟩) (.of main_v421 : StableHlo.TRef sig ⟨S300000, .i32⟩) select ]
theorem pc9_7_sub : (pc9_7 : List (HloOp τ sig (Elt F))).Forall fun op => op.bufs ⊆ StableHlo.tcRefs τ sig :=
  ⟨StableHlo.unary_bufs_sub .., StableHlo.unary_bufs_sub .., StableHlo.ternary_bufs_sub ..⟩
theorem pc9_7_fresh : (pc9_7 : List (HloOp τ sig (Elt F))).Forall fun op => op.fresh = ∅ :=
  ⟨rfl, rfl, rfl⟩
theorem pc9_7_nw : (pc9_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 19 operations of @main, window 9, tlOps2: %c_155 … %c_159. -/
abbrev pc9_8 : List (HloOp τ sig (Elt F)) :=
  [ StableHlo.nullary main_c_155 (constantI S_ 32 0#32),
    StableHlo.unary main_c_155 main_v422 (broadcastInDim S300000 ![] bcast_S_S300000 : (⟨S_, .i32⟩ : BufTy).Contents (Elt F) → (⟨S300000, .i32⟩ : BufTy).Contents (Elt F)),
    StableHlo.binary main_v418 main_v422 main_v423 (cmpi .slt : (⟨S300000, .i32⟩ : BufTy).Contents (Elt F) → (⟨S300000, .i32⟩ : BufTy).Contents (Elt F) → (⟨S300000, .i1⟩ : BufTy).Contents (Elt F)),
    StableHlo.nullary main_c_156 (constantI S_ 32 262145#32),
    StableHlo.unary main_c_156 main_v424 (broadcastInDim S300000 ![] bcast_S_S300000 : (⟨S_, .i32⟩ : BufTy).Contents (Elt F) → (⟨S300000, .i32⟩ : BufTy).Contents (Elt F)),
    StableHlo.binary main_v418 main_v424 main_v425 (addi : (⟨S300000, .i32⟩ : BufTy).Contents (Elt F) → (⟨S300000, .i32⟩ : BufTy).Contents (Elt F) → (⟨S300000, .i32⟩ : BufTy).Contents (Elt F)),
    StableHlo.ternary main_v423 main_v425 main_v418 main_v426 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v426 main_v427 (broadcastInDim S300000x1 ![0] bcast_S300000_S300000x1_0 : (⟨S300000, .i32⟩ : BufTy).Contents (Elt F) → (⟨S300000x1, .i32⟩ : BufTy).Contents (Elt F)),
    StableHlo.ternary main_v417 main_v427 main_v421 main_v428 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_157 (constantI S_ 32 0#32),
    StableHlo.unary main_c_157 main_v429 (broadcastInDim S300000 ![] bcast_S_S300000 : (⟨S_, .i32⟩ : BufTy).Contents (Elt F) → (⟨S300000, .i32⟩ : BufTy).Contents (Elt F)),
    StableHlo.binary main_v394 main_v429 main_v430 (cmpi .slt : (⟨S300000, .i32⟩ : BufTy).Contents (Elt F) → (⟨S300000, .i32⟩ : BufTy).Contents (Elt F) → (⟨S300000, .i1⟩ : BufTy).Contents (Elt F)),
    StableHlo.nullary main_c_158 (constantI S_ 32 262145#32),
    StableHlo.unary main_c_158 main_v431 (broadcastInDim S300000 ![] bcast_S_S300000 : (⟨S_, .i32⟩ : BufTy).Contents (Elt F) → (⟨S300000, .i32⟩ : BufTy).Contents (Elt F)),
    StableHlo.binary main_v394 main_v431 main_v432 (addi : (⟨S300000, .i32⟩ : BufTy).Contents (Elt F) → (⟨S300000, .i32⟩ : BufTy).Contents (Elt F) → (⟨S300000, .i32⟩ : BufTy).Contents (Elt F)),
    StableHlo.ternary main_v430 main_v432 main_v394 main_v433 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v433 main_v434 (broadcastInDim S300000x1 ![0] bcast_S300000_S300000x1_0 : (⟨S300000, .i32⟩ : BufTy).Contents (Elt F) → (⟨S300000x1, .i32⟩ : BufTy).Contents (Elt F)),
    StableHlo.binary main_v428 main_v434 main_v435 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_159 (constantI S_ 32 30000#32) ]
theorem pc9_8_sub : (pc9_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem pc9_8_fresh : (pc9_8 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pc9_8_nw : (pc9_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide)⟩

/-- 3 operations of @where (main_call44), window 9, tlOps2: %436 … %436. -/
abbrev pc9_9 : List (HloOp τ sig (Elt F)) :=
  [ StableHlo.TRef.unary (.of main_c_159 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S300000, .i32⟩) (broadcastInDim S300000 ![] bcast_S_S300000),
    StableHlo.TRef.ternary (.of main_v381 : StableHlo.TRef sig ⟨S300000, .i1⟩) (.of main_v435 : StableHlo.TRef sig ⟨S300000, .i32⟩) (.of main_call44_v1 : StableHlo.TRef sig ⟨S300000, .i32⟩) (.of main_v436 : StableHlo.TRef sig ⟨S300000, .i32⟩) select ]
theorem pc9_9_sub : (pc9_9 : List (HloOp τ sig (Elt F))).Forall fun op => op.bufs ⊆ StableHlo.tcRefs τ sig :=
  ⟨StableHlo.unary_bufs_sub .., StableHlo.unary_bufs_sub .., StableHlo.ternary_bufs_sub ..⟩
theorem pc9_9_fresh : (pc9_9 : List (HloOp τ sig (Elt F))).Forall fun op => op.fresh = ∅ :=
  ⟨rfl, rfl, rfl⟩
theorem pc9_9_nw : (pc9_9 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @argsort (main_call45), window 9, tlOps2: %437 … %437. -/
abbrev pc9_10 : List (HloOp τ sig (Elt F)) :=
  [ StableHlo.TRef.nullary (.of main_call45_v0 : StableHlo.TRef sig ⟨S300000, .i32⟩) (iotaInDim S300000 32 0),
    StableHlo.TRef.binary (.of main_v394 : StableHlo.TRef sig ⟨S300000, .i32⟩) (.of main_call45_v0 : StableHlo.TRef sig ⟨S300000, .i32⟩) (.of main_call45_v1_0 : StableHlo.TRef sig ⟨S300000, .i32⟩) (fun x y => (Host.sort2 S300000 0 comparator_i32_i32_d0 x y).1),
    StableHlo.TRef.binary (.of main_v394 : StableHlo.TRef sig ⟨S300000, .i32⟩) (.of main_call45_v0 : StableHlo.TRef sig ⟨S300000, .i32⟩) (.of main_v437 : StableHlo.TRef sig ⟨S300000, .i32⟩) (fun x y => (Host.sort2 S300000 0 comparator_i32_i32_d0 x y).2) ]
theorem pc9_10_sub : (pc9_10 : List (HloOp τ sig (Elt F))).Forall fun op => op.bufs ⊆ StableHlo.tcRefs τ sig :=
  ⟨StableHlo.nullary_bufs_sub .., StableHlo.binary_bufs_sub .., StableHlo.binary_bufs_sub ..⟩
theorem pc9_10_fresh : (pc9_10 : List (HloOp τ sig (Elt F))).Forall fun op => op.fresh = ∅ :=
  ⟨rfl, rfl, rfl⟩
theorem pc9_10_nw : (pc9_10 : List (HloOp τ sig (Elt F))).Forall fun op => (Proc.devRef .tc main_arg0 : DevRef τ sig) ∉ op.writes :=
  ⟨nullary_nw _ _ (by decide), binary_nw _ _ _ _ (by decide), binary_nw _ _ _ _ (by decide)⟩

/-- 16 operations of @main, window 10, tlOps2: %c_160 … %c_163. -/
abbrev pc10_0 : List (HloOp τ sig (Elt F)) :=
  [ StableHlo.nullary main_c_160 (constantI S_ 32 0#32),
    StableHlo.unary main_c_160 main_v438 (broadcastInDim S300000 ![] bcast_S_S300000 : (⟨S_, .i32⟩ : BufTy).Contents (Elt F) → (⟨S300000, .i32⟩ : BufTy).Contents (Elt F)),
    StableHlo.binary main_v437 main_v438 main_v439 (cmpi .slt : (⟨S300000, .i32⟩ : BufTy).Contents (Elt F) → (⟨S300000, .i32⟩ : BufTy).Contents (Elt F) → (⟨S300000, .i1⟩ : BufTy).Contents (Elt F)),
    StableHlo.nullary main_c_161 (constantI S_ 32 300000#32),
    StableHlo.unary main_c_161 main_v440 (broadcastInDim S300000 ![] bcast_S_S300000 : (⟨S_, .i32⟩ : BufTy).Contents (Elt F) → (⟨S300000, .i32⟩ : BufTy).Contents (Elt F)),
    StableHlo.binary main_v437 main_v440 main_v441 (addi : (⟨S300000, .i32⟩ : BufTy).Contents (Elt F) → (⟨S300000, .i32⟩ : BufTy).Contents (Elt F) → (⟨S300000, .i32⟩ : BufTy).Contents (Elt F)),
    StableHlo.ternary main_v439 main_v441 main_v437 main_v442 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v442 main_v443 (broadcastInDim S300000x1 ![0] bcast_S300000_S300000x1_0 : (⟨S300000, .i32⟩ : BufTy).Contents (Elt F) → (⟨S300000x1, .i32⟩ : BufTy).Contents (Elt F)),
    StableHlo.binary main_v394 main_v443 main_v444 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_162 (constantI S_ 1 1#1),
    StableHlo.unary main_c_162 main_v445 (broadcastInDim S1 ![] bcast_S_S1 : (⟨S_, .i1⟩ : BufTy).Contents (Elt F) → (⟨S1, .i1⟩ : BufTy).Contents (Elt F)),
    StableHlo.unary main_v444 main_v446 ((extractStridedSlice S299999 ![1] · slices_S300000_S299999_1) : (⟨S300000, .i32⟩ : BufTy).Contents (Elt F) → (⟨S299999, .i32⟩ : BufTy).Contents (Elt F)),
    StableHlo.unary main_v444 main_v447 ((extractStridedSlice S299999 ![0] · slices_S300000_S299999_0) : (⟨S300000, .i32⟩ : BufTy).Contents (Elt F) → (⟨S299999, .i32⟩ : BufTy).Contents (Elt F)),
    StableHlo.binary main_v446 main_v447 main_v448 (cmpi .ne : (⟨S299999, .i32⟩ : BufTy).Contents (Elt F) → (⟨S299999, .i32⟩ : BufTy).Contents (Elt F) → (⟨S299999, .i1⟩ : BufTy).Contents (Elt F)),
    StableHlo.binary main_v445 main_v448 main_v449 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_163 (constantI S_ 32 0#32) ]
theorem pc10_0_sub : (pc10_0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩
theorem pc10_0_fresh : (pc10_0 : List (HloOp τ sig (Elt F))).Forall fun op => op.fresh = ∅ :=
  ⟨rfl, rfl, rfl, rfl, rfl, rfl, rfl, rfl, rfl, rfl, rfl, rfl, rfl, rfl, rfl, rfl⟩
theorem pc10_0_nw : (pc10_0 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide), unary_nw _ _ _ (by decide), unary_nw _ _ _ (by decide), unary_nw _ _ _ (by decide), binary_nw _ _ _ _ (by decide), binary_nw _ _ _ _ (by decide), nullary_nw _ _ (by decide)⟩

/-- 3 operations of @where (main_call46), window 10, tlOps2: %450 … %450. -/
abbrev pc10_1 : List (HloOp τ sig (Elt F)) :=
  [ StableHlo.TRef.unary (.of main_c_163 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S300000, .i32⟩) (broadcastInDim S300000 ![] bcast_S_S300000),
    StableHlo.TRef.ternary (.of main_v449 : StableHlo.TRef sig ⟨S300000, .i1⟩) (.of main_v395 : StableHlo.TRef sig ⟨S300000, .i32⟩) (.of main_call46_v1 : StableHlo.TRef sig ⟨S300000, .i32⟩) (.of main_v450 : StableHlo.TRef sig ⟨S300000, .i32⟩) select ]
theorem pc10_1_sub : (pc10_1 : List (HloOp τ sig (Elt F))).Forall fun op => op.bufs ⊆ StableHlo.tcRefs τ sig :=
  ⟨StableHlo.unary_bufs_sub .., StableHlo.unary_bufs_sub .., StableHlo.ternary_bufs_sub ..⟩
theorem pc10_1_fresh : (pc10_1 : List (HloOp τ sig (Elt F))).Forall fun op => op.fresh = ∅ :=
  ⟨rfl, rfl, rfl⟩
theorem pc10_1_nw : (pc10_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @cummax (main_call47), window 10, tlOps2: %451 … %451. -/
abbrev pc10_2 : List (HloOp τ sig (Elt F)) :=
  [ StableHlo.TRef.nullary (.of main_call47_c : StableHlo.TRef sig ⟨S_, .i32⟩) (constantI S_ 32 2147483648#32),
    StableHlo.TRef.unary (.of main_call47_c : StableHlo.TRef sig ⟨S_, .i32⟩) (.of main_call47_v0 : StableHlo.TRef sig ⟨S_, .i32⟩) (broadcastInDim S_ ![] bcast_S_S_),
    StableHlo.TRef.binary (.of main_v450 : StableHlo.TRef sig ⟨S300000, .i32⟩) (.of main_call47_v0 : StableHlo.TRef sig ⟨S_, .i32⟩) (.of main_v451 : StableHlo.TRef sig ⟨S300000, .i32⟩) (fun x v => Host.reduceWindow IntOp.maxsi ![300000] ![1] ![299999] ![0] x v reduceWindows_S300000_S300000_w300000s1p299999_0 h_S_) ]
theorem pc10_2_sub : (pc10_2 : List (HloOp τ sig (Elt F))).Forall fun op => op.bufs ⊆ StableHlo.tcRefs τ sig :=
  ⟨StableHlo.nullary_bufs_sub .., StableHlo.unary_bufs_sub .., StableHlo.binary_bufs_sub ..⟩
theorem pc10_2_fresh : (pc10_2 : List (HloOp τ sig (Elt F))).Forall fun op => op.fresh = ∅ :=
  ⟨rfl, rfl, rfl⟩
theorem pc10_2_nw : (pc10_2 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 21 operations of @main, window 10, tlOps2: %c_164 … %c_169. -/
abbrev pc10_3 : List (HloOp τ sig (Elt F)) :=
  [ StableHlo.nullary main_c_164 (constantI S_ 32 0#32),
    StableHlo.unary main_c_164 main_v452 (broadcastInDim S300000 ![] bcast_S_S300000 : (⟨S_, .i32⟩ : BufTy).Contents (Elt F) → (⟨S300000, .i32⟩ : BufTy).Contents (Elt F)),
    StableHlo.binary main_v395 main_v451 main_v453 (subi : (⟨S300000, .i32⟩ : BufTy).Contents (Elt F) → (⟨S300000, .i32⟩ : BufTy).Contents (Elt F) → (⟨S300000, .i32⟩ : BufTy).Contents (Elt F)),
    StableHlo.nullary main_c_165 (constantI S_ 32 0#32),
    StableHlo.unary main_c_165 main_v454 (broadcastInDim S300000 ![] bcast_S_S300000 : (⟨S_, .i32⟩ : BufTy).Contents (Elt F) → (⟨S300000, .i32⟩ : BufTy).Contents (Elt F)),
    StableHlo.binary main_v437 main_v454 main_v455 (cmpi .slt : (⟨S300000, .i32⟩ : BufTy).Contents (Elt F) → (⟨S300000, .i32⟩ : BufTy).Contents (Elt F) → (⟨S300000, .i1⟩ : BufTy).Contents (Elt F)),
    StableHlo.nullary main_c_166 (constantI S_ 32 300000#32),
    StableHlo.unary main_c_166 main_v456 (broadcastInDim S300000 ![] bcast_S_S300000 : (⟨S_, .i32⟩ : BufTy).Contents (Elt F) → (⟨S300000, .i32⟩ : BufTy).Contents (Elt F)),
    StableHlo.binary main_v437 main_v456 main_v457 (addi : (⟨S300000, .i32⟩ : BufTy).Contents (Elt F) → (⟨S300000, .i32⟩ : BufTy).Contents (Elt F) → (⟨S300000, .i32⟩ : BufTy).Contents (Elt F)),
    StableHlo.ternary main_v455 main_v457 main_v437 main_v458 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v458 main_v459 (broadcastInDim S300000x1 ![0] bcast_S300000_S300000x1_0 : (⟨S300000, .i32⟩ : BufTy).Contents (Elt F) → (⟨S300000x1, .i32⟩ : BufTy).Contents (Elt F)),
    StableHlo.ternary main_v452 main_v459 main_v453 main_v460 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_167 (constantI S_ 32 30000#32),
    StableHlo.unary main_c_167 main_v461 (broadcastInDim S300000 ![] bcast_S_S300000 : (⟨S_, .i32⟩ : BufTy).Contents (Elt F) → (⟨S300000, .i32⟩ : BufTy).Contents (Elt F)),
    StableHlo.binary main_v436 main_v461 main_v462 (cmpi .slt : (⟨S300000, .i32⟩ : BufTy).Contents (Elt F) → (⟨S300000, .i32⟩ : BufTy).Contents (Elt F) → (⟨S300000, .i1⟩ : BufTy).Contents (Elt F)),
    StableHlo.binary main_v381 main_v462 main_v463 (andi : (⟨S300000, .i1⟩ : BufTy).Contents (Elt F) → (⟨S300000, .i1⟩ : BufTy).Contents (Elt F) → (⟨S300000, .i1⟩ : BufTy).Contents (Elt F)),
    StableHlo.nullary main_c_168 (constantI S_ 32 20#32),
    StableHlo.unary main_c_168 main_v464 (broadcastInDim S300000 ![] bcast_S_S300000 : (⟨S_, .i32⟩ : BufTy).Contents (Elt F) → (⟨S300000, .i32⟩ : BufTy).Contents (Elt F)),
    StableHlo.binary main_v460 main_v464 main_v465 (cmpi .slt : (⟨S300000, .i32⟩ : BufTy).Contents (Elt F) → (⟨S300000, .i32⟩ : BufTy).Contents (Elt F) → (⟨S300000, .i1⟩ : BufTy).Contents (Elt F)),
    StableHlo.binary main_v463 main_v465 main_v466 (andi : (⟨S300000, .i1⟩ : BufTy).Contents (Elt F) → (⟨S300000, .i1⟩ : BufTy).Contents (Elt F) → (⟨S300000, .i1⟩ : BufTy).Contents (Elt F)),
    StableHlo.nullary main_c_169 (constantI S_ 32 30000#32) ]
theorem pc10_3_sub : (pc10_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem pc10_3_fresh : (pc10_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc10_3_nw : (pc10_3 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), binary_nw _ _ _ _ (by decide), nullary_nw _ _ (by decide)⟩

/-- 3 operations of @where (main_call48), window 10, tlOps2: %467 … %467. -/
abbrev pc10_4 : List (HloOp τ sig (Elt F)) :=
  [ StableHlo.TRef.unary (.of main_c_169 : StableHlo.TRef sig ⟨S_, .i32⟩) (.of main_call48_v0 : StableHlo.TRef sig ⟨S_, .i32⟩) id,
    StableHlo.TRef.unary (.of main_call48_v0 : StableHlo.TRef sig ⟨S_, .i32⟩) (.of main_call48_v1 : StableHlo.TRef sig ⟨S300000, .i32⟩) (broadcastInDim S300000 ![] bcast_S_S300000),
    StableHlo.TRef.ternary (.of main_v466 : StableHlo.TRef sig ⟨S300000, .i1⟩) (.of main_v436 : StableHlo.TRef sig ⟨S300000, .i32⟩) (.of main_call48_v1 : StableHlo.TRef sig ⟨S300000, .i32⟩) (.of main_v467 : StableHlo.TRef sig ⟨S300000, .i32⟩) select ]
theorem pc10_4_sub : (pc10_4 : List (HloOp τ sig (Elt F))).Forall fun op => op.bufs ⊆ StableHlo.tcRefs τ sig :=
  ⟨StableHlo.unary_bufs_sub .., StableHlo.unary_bufs_sub .., StableHlo.ternary_bufs_sub ..⟩
theorem pc10_4_fresh : (pc10_4 : List (HloOp τ sig (Elt F))).Forall fun op => op.fresh = ∅ :=
  ⟨rfl, rfl, rfl⟩
theorem pc10_4_nw : (pc10_4 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 1 operations of @main, window 10, tlOps2: %c_170 … %c_170. -/
abbrev pc10_5 : List (HloOp τ sig (Elt F)) :=
  [ StableHlo.nullary main_c_170 (constantI S_ 32 0#32) ]
theorem pc10_5_sub : (pc10_5 : List (HloOp τ sig (Elt F))).Forall fun op => op.bufs ⊆ StableHlo.tcRefs τ sig :=
  StableHlo.nullary_bufs_sub ..
theorem pc10_5_fresh : (pc10_5 : List (HloOp τ sig (Elt F))).Forall fun op => op.fresh = ∅ :=
  rfl
theorem pc10_5_nw : (pc10_5 : List (HloOp τ sig (Elt F))).Forall fun op => (Proc.devRef .tc main_arg0 : DevRef τ sig) ∉ op.writes :=
  nullary_nw _ _ (by decide)

/-- 3 operations of @where (main_call49), window 10, tlOps2: %468 … %468. -/
abbrev pc10_6 : List (HloOp τ sig (Elt F)) :=
  [ StableHlo.TRef.unary (.of main_c_170 : StableHlo.TRef sig ⟨S_, .i32⟩) (.of main_call49_v0 : StableHlo.TRef sig ⟨S_, .i32⟩) id,
    StableHlo.TRef.unary (.of main_call49_v0 : StableHlo.TRef sig ⟨S_, .i32⟩) (.of main_call49_v1 : StableHlo.TRef sig ⟨S300000, .i32⟩) (broadcastInDim S300000 ![] bcast_S_S300000),
    StableHlo.TRef.ternary (.of main_v466 : StableHlo.TRef sig ⟨S300000, .i1⟩) (.of main_v460 : StableHlo.TRef sig ⟨S300000, .i32⟩) (.of main_call49_v1 : StableHlo.TRef sig ⟨S300000, .i32⟩) (.of main_v468 : StableHlo.TRef sig ⟨S300000, .i32⟩) select ]
theorem pc10_6_sub : (pc10_6 : List (HloOp τ sig (Elt F))).Forall fun op => op.bufs ⊆ StableHlo.tcRefs τ sig :=
  ⟨StableHlo.unary_bufs_sub .., StableHlo.unary_bufs_sub .., StableHlo.ternary_bufs_sub ..⟩
theorem pc10_6_fresh : (pc10_6 : List (HloOp τ sig (Elt F))).Forall fun op => op.fresh = ∅ :=
  ⟨rfl, rfl, rfl⟩
theorem pc10_6_nw : (pc10_6 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 10, tlOps2: %cst_171 … %cst_172. -/
abbrev pc10_7 : List (HloOp τ sig (Elt F)) :=
  [ StableHlo.nullary main_cst_171 (constant S_ .f32 0x00000000#32),
    StableHlo.unary main_cst_171 main_v469 (broadcastInDim S30001x20x5 ![] bcast_S_S30001x20x5 : (⟨S_, .f32⟩ : BufTy).Contents (Elt F) → (⟨S30001x20x5, .f32⟩ : BufTy).Contents (Elt F)),
    StableHlo.unary main_v466 main_v470 (broadcastInDim S300000x1 ![0] bcast_S300000_S300000x1_0 : (⟨S300000, .i1⟩ : BufTy).Contents (Elt F) → (⟨S300000x1, .i1⟩ : BufTy).Contents (Elt F)),
    StableHlo.nullary main_cst_172 (constant S_ .f32 0x00000000#32) ]
theorem pc10_7_sub : (pc10_7 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub ..⟩
theorem pc10_7_fresh : (pc10_7 : List (HloOp τ sig (Elt F))).Forall fun op => op.fresh = ∅ :=
  ⟨rfl, rfl, rfl, rfl⟩
theorem pc10_7_nw : (pc10_7 : List (HloOp τ sig (Elt F))).Forall fun op => (Proc.devRef .tc main_arg0 : DevRef τ sig) ∉ op.writes :=
  ⟨nullary_nw _ _ (by decide), unary_nw _ _ _ (by decide), unary_nw _ _ _ (by decide), nullary_nw _ _ (by decide)⟩

/-- 4 operations of @where_1 (main_call50), window 10, tlOps2: %471 … %471. -/
abbrev pc10_8 : List (HloOp τ sig (Elt F)) :=
  [ StableHlo.TRef.unary (.of main_cst_172 : StableHlo.TRef sig ⟨S_, .f32⟩) (.of main_call50_v0 : StableHlo.TRef sig ⟨S_, .f32⟩) id,
    StableHlo.TRef.unary (.of main_v470 : StableHlo.TRef sig ⟨S300000x1, .i1⟩) (.of main_call50_v1 : StableHlo.TRef sig ⟨S300000x5, .i1⟩) (broadcastInDim S300000x5 ![0, 1] bcast_S300000x1_S300000x5_0_1),
    StableHlo.TRef.unary (.of main_call50_v0 : StableHlo.TRef sig ⟨S_, .f32⟩) (.of main_call50_v2 : StableHlo.TRef sig ⟨S300000x5, .f32⟩) (broadcastInDim S300000x5 ![] bcast_S_S300000x5),
    StableHlo.TRef.ternary (.of main_call50_v1 : StableHlo.TRef sig ⟨S300000x5, .i1⟩) (.of main_v365 : StableHlo.TRef sig ⟨S300000x5, .f32⟩) (.of main_call50_v2 : StableHlo.TRef sig ⟨S300000x5, .f32⟩) (.of main_v471 : StableHlo.TRef sig ⟨S300000x5, .f32⟩) select ]
theorem pc10_8_sub : (pc10_8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem pc10_8_fresh : (pc10_8 : List (HloOp τ sig (Elt F))).Forall fun op => op.fresh = ∅ :=
  ⟨rfl, rfl, rfl, rfl⟩
theorem pc10_8_nw : (pc10_8 : List (HloOp τ sig (Elt F))).Forall fun op => (Proc.devRef .tc main_arg0 : DevRef τ sig) ∉ op.writes :=
  ⟨unary_nw _ _ _ (by decide), unary_nw _ _ _ (by decide), unary_nw _ _ _ (by decide), ternary_nw _ _ _ _ _ (by decide)⟩

/-- 13 operations of @main, window 10, tlOps2: %c_173 … %480. -/
abbrev pc10_9 : List (HloOp τ sig (Elt F)) :=
  [ StableHlo.nullary main_c_173 (constantI S_ 32 0#32),
    StableHlo.unary main_c_173 main_v472 (broadcastInDim S300000 ![] bcast_S_S300000 : (⟨S_, .i32⟩ : BufTy).Contents (Elt F) → (⟨S300000, .i32⟩ : BufTy).Contents (Elt F)),
    StableHlo.binary main_v467 main_v472 main_v473 (cmpi .slt : (⟨S300000, .i32⟩ : BufTy).Contents (Elt F) → (⟨S300000, .i32⟩ : BufTy).Contents (Elt F) → (⟨S300000, .i1⟩ : BufTy).Contents (Elt F)),
    StableHlo.nullary main_c_174 (constantI S_ 32 30001#32),
    StableHlo.unary main_c_174 main_v474 (broadcastInDim S300000 ![] bcast_S_S300000 : (⟨S_, .i32⟩ : BufTy).Contents (Elt F) → (⟨S300000, .i32⟩ : BufTy).Contents (Elt F)),
    StableHlo.binary main_v467 main_v474 main_v475 (addi : (⟨S300000, .i32⟩ : BufTy).Contents (Elt F) → (⟨S300000, .i32⟩ : BufTy).Contents (Elt F) → (⟨S300000, .i32⟩ : BufTy).Contents (Elt F)),
    StableHlo.ternary main_v473 main_v475 main_v467 main_v476 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_175 (constantI S_ 32 0#32),
    StableHlo.unary main_c_175 main_v477 (broadcastInDim S300000 ![] bcast_S_S300000 : (⟨S_, .i32⟩ : BufTy).Contents (Elt F) → (⟨S300000, .i32⟩ : BufTy).Contents (Elt F)),
    StableHlo.binary main_v468 main_v477 main_v478 (cmpi .slt : (⟨S300000, .i32⟩ : BufTy).Contents (Elt F) → (⟨S300000, .i32⟩ : BufTy).Contents (Elt F) → (⟨S300000, .i1⟩ : BufTy).Contents (Elt F)),
    StableHlo.nullary main_c_176 (constantI S_ 32 20#32),
    StableHlo.unary main_c_176 main_v479 (broadcastInDim S300000 ![] bcast_S_S300000 : (⟨S_, .i32⟩ : BufTy).Contents (Elt F) → (⟨S300000, .i32⟩ : BufTy).Contents (Elt F)),
    StableHlo.binary main_v468 main_v479 main_v480 (addi : (⟨S300000, .i32⟩ : BufTy).Contents (Elt F) → (⟨S300000, .i32⟩ : BufTy).Contents (Elt F) → (⟨S300000, .i32⟩ : BufTy).Contents (Elt F)) ]
theorem pc10_9_sub : (pc10_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub ..⟩
theorem pc10_9_fresh : (pc10_9 : List (HloOp τ sig (Elt F))).Forall fun op => op.fresh = ∅ :=
  ⟨rfl, rfl, rfl, rfl, rfl, rfl, rfl, rfl, rfl, rfl, rfl, rfl, rfl⟩
theorem pc10_9_nw : (pc10_9 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide)⟩

/-- 19 operations of @main, window 11, tlOps2: %481 … %c_180. -/
abbrev pc11_0 : List (HloOp τ sig (Elt F)) :=
  [ StableHlo.ternary main_v478 main_v480 main_v468 main_v481 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v476 main_v482 (broadcastInDim S300000x1 ![0] bcast_S300000_S300000x1_0 : (⟨S300000, .i32⟩ : BufTy).Contents (Elt F) → (⟨S300000x1, .i32⟩ : BufTy).Contents (Elt F)),
    StableHlo.unary main_v481 main_v483 (broadcastInDim S300000x1 ![0] bcast_S300000_S300000x1_0 : (⟨S300000, .i32⟩ : BufTy).Contents (Elt F) → (⟨S300000x1, .i32⟩ : BufTy).Contents (Elt F)),
    StableHlo.binary main_v482 main_v483 main_v484 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v469 main_v484 main_v471 main_v485 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v485 main_v486 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v466 main_v487 ((extui 32 · natLt_1_32) : (⟨S300000, .i1⟩ : BufTy).Contents (Elt F) → (⟨S300000, .i32⟩ : BufTy).Contents (Elt F)),
    StableHlo.nullary main_c_177 (constantI S_ 32 0#32),
    StableHlo.unary main_c_177 main_v488 (broadcastInDim S30001 ![] bcast_S_S30001 : (⟨S_, .i32⟩ : BufTy).Contents (Elt F) → (⟨S30001, .i32⟩ : BufTy).Contents (Elt F)),
    StableHlo.unary main_v467 main_v489 (broadcastInDim S300000x1 ![0] bcast_S300000_S300000x1_0 : (⟨S300000, .i32⟩ : BufTy).Contents (Elt F) → (⟨S300000x1, .i32⟩ : BufTy).Contents (Elt F)),
    StableHlo.ternary main_v488 main_v489 main_v487 main_v490 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v490 main_v491 ((extractStridedSlice S30000 ![0] · slices_S30001_S30000_0) : (⟨S30001, .i32⟩ : BufTy).Contents (Elt F) → (⟨S30000, .i32⟩ : BufTy).Contents (Elt F)),
    StableHlo.nullary main_c_178 (constantI S_ 32 4294967295#32),
    StableHlo.unary main_c_178 main_v492 (broadcastInDim S30001 ![] bcast_S_S30001 : (⟨S_, .i32⟩ : BufTy).Contents (Elt F) → (⟨S30001, .i32⟩ : BufTy).Contents (Elt F)),
    StableHlo.nullary main_c_179 (constantI S_ 32 30000#32),
    StableHlo.unary main_c_179 main_v493 (broadcastInDim S300000 ![] bcast_S_S300000 : (⟨S_, .i32⟩ : BufTy).Contents (Elt F) → (⟨S300000, .i32⟩ : BufTy).Contents (Elt F)),
    StableHlo.binary main_v416 main_v493 main_v494 (cmpi .slt : (⟨S300000, .i32⟩ : BufTy).Contents (Elt F) → (⟨S300000, .i32⟩ : BufTy).Contents (Elt F) → (⟨S300000, .i1⟩ : BufTy).Contents (Elt F)),
    StableHlo.binary main_v412 main_v494 main_v495 (andi : (⟨S300000, .i1⟩ : BufTy).Contents (Elt F) → (⟨S300000, .i1⟩ : BufTy).Contents (Elt F) → (⟨S300000, .i1⟩ : BufTy).Contents (Elt F)),
    StableHlo.nullary main_c_180 (constantI S_ 32 30000#32) ]
theorem pc11_0_sub : (pc11_0 : List (HloOp τ sig (Elt F))).Forall fun op => op.bufs ⊆ StableHlo.tcRefs τ sig :=
  ⟨StableHlo.ternary_bufs_sub .., StableHlo.unary_bufs_sub .., StableHlo.unary_bufs_sub .., StableHlo.binary_bufs_sub .., StableHlo.ternary_bufs_sub .., StableHlo.unary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub ..⟩
theorem pc11_0_fresh : (pc11_0 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pc11_0_nw : (pc11_0 : List (HloOp τ sig (Elt F))).Forall fun op => (Proc.devRef .tc main_arg0 : DevRef τ sig) ∉ op.writes :=
  ⟨ternary_nw _ _ _ _ _ (by decide), unary_nw _ _ _ (by decide), unary_nw _ _ _ (by decide), binary_nw _ _ _ _ (by decide), ternary_nw _ _ _ _ _ (by decide), unary_nw _ _ _ (by decide), unary_nw _ _ _ (by decide), nullary_nw _ _ (by decide), unary_nw _ _ _ (by decide), unary_nw _ _ _ (by decide), ternary_nw _ _ _ _ _ (by decide), unary_nw _ _ _ (by decide), nullary_nw _ _ (by decide), unary_nw _ _ _ (by decide), nullary_nw _ _ (by decide), unary_nw _ _ _ (by decide), binary_nw _ _ _ _ (by decide), binary_nw _ _ _ _ (by decide), nullary_nw _ _ (by decide)⟩

/-- 3 operations of @where (main_call51), window 11, tlOps2: %496 … %496. -/
abbrev pc11_1 : List (HloOp τ sig (Elt F)) :=
  [ StableHlo.TRef.unary (.of main_c_180 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S300000, .i32⟩) (broadcastInDim S300000 ![] bcast_S_S300000),
    StableHlo.TRef.ternary (.of main_v495 : StableHlo.TRef sig ⟨S300000, .i1⟩) (.of main_v416 : StableHlo.TRef sig ⟨S300000, .i32⟩) (.of main_call51_v1 : StableHlo.TRef sig ⟨S300000, .i32⟩) (.of main_v496 : StableHlo.TRef sig ⟨S300000, .i32⟩) select ]
theorem pc11_1_sub : (pc11_1 : List (HloOp τ sig (Elt F))).Forall fun op => op.bufs ⊆ StableHlo.tcRefs τ sig :=
  ⟨StableHlo.unary_bufs_sub .., StableHlo.unary_bufs_sub .., StableHlo.ternary_bufs_sub ..⟩
theorem pc11_1_fresh : (pc11_1 : List (HloOp τ sig (Elt F))).Forall fun op => op.fresh = ∅ :=
  ⟨rfl, rfl, rfl⟩
theorem pc11_1_nw : (pc11_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 5 operations of @main, window 11, tlOps2: %c_181 … %c_182. -/
abbrev pc11_2 : List (HloOp τ sig (Elt F)) :=
  [ StableHlo.nullary main_c_181 (constantI S_ 32 30000#32),
    StableHlo.unary main_c_181 main_v497 (broadcastInDim S300000 ![] bcast_S_S300000 : (⟨S_, .i32⟩ : BufTy).Contents (Elt F) → (⟨S300000, .i32⟩ : BufTy).Contents (Elt F)),
    StableHlo.binary main_v416 main_v497 main_v498 (cmpi .slt : (⟨S300000, .i32⟩ : BufTy).Contents (Elt F) → (⟨S300000, .i32⟩ : BufTy).Contents (Elt F) → (⟨S300000, .i1⟩ : BufTy).Contents (Elt F)),
    StableHlo.binary main_v412 main_v498 main_v499 (andi : (⟨S300000, .i1⟩ : BufTy).Contents (Elt F) → (⟨S300000, .i1⟩ : BufTy).Contents (Elt F) → (⟨S300000, .i1⟩ : BufTy).Contents (Elt F)),
    StableHlo.nullary main_c_182 (constantI S_ 32 4294967295#32) ]
theorem pc11_2_sub : (pc11_2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub ..⟩
theorem pc11_2_fresh : (pc11_2 : List (HloOp τ sig (Elt F))).Forall fun op => op.fresh = ∅ :=
  ⟨rfl, rfl, rfl, rfl, rfl⟩
theorem pc11_2_nw : (pc11_2 : List (HloOp τ sig (Elt F))).Forall fun op => (Proc.devRef .tc main_arg0 : DevRef τ sig) ∉ op.writes :=
  ⟨nullary_nw _ _ (by decide), unary_nw _ _ _ (by decide), binary_nw _ _ _ _ (by decide), binary_nw _ _ _ _ (by decide), nullary_nw _ _ (by decide)⟩

/-- 3 operations of @where (main_call52), window 11, tlOps2: %500 … %500. -/
abbrev pc11_3 : List (HloOp τ sig (Elt F)) :=
  [ StableHlo.TRef.unary (.of main_c_182 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S300000, .i32⟩) (broadcastInDim S300000 ![] bcast_S_S300000),
    StableHlo.TRef.ternary (.of main_v499 : StableHlo.TRef sig ⟨S300000, .i1⟩) (.of main_v394 : StableHlo.TRef sig ⟨S300000, .i32⟩) (.of main_call52_v1 : StableHlo.TRef sig ⟨S300000, .i32⟩) (.of main_v500 : StableHlo.TRef sig ⟨S300000, .i32⟩) select ]
theorem pc11_3_sub : (pc11_3 : List (HloOp τ sig (Elt F))).Forall fun op => op.bufs ⊆ StableHlo.tcRefs τ sig :=
  ⟨StableHlo.unary_bufs_sub .., StableHlo.unary_bufs_sub .., StableHlo.ternary_bufs_sub ..⟩
theorem pc11_3_fresh : (pc11_3 : List (HloOp τ sig (Elt F))).Forall fun op => op.fresh = ∅ :=
  ⟨rfl, rfl, rfl⟩
theorem pc11_3_nw : (pc11_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 14 operations of @main, window 11, tlOps2: %c_183 … %c_186. -/
abbrev pc11_4 : List (HloOp τ sig (Elt F)) :=
  [ StableHlo.nullary main_c_183 (constantI S_ 32 0#32),
    StableHlo.unary main_c_183 main_v501 (broadcastInDim S300000 ![] bcast_S_S300000 : (⟨S_, .i32⟩ : BufTy).Contents (Elt F) → (⟨S300000, .i32⟩ : BufTy).Contents (Elt F)),
    StableHlo.binary main_v496 main_v501 main_v502 (cmpi .slt : (⟨S300000, .i32⟩ : BufTy).Contents (Elt F) → (⟨S300000, .i32⟩ : BufTy).Contents (Elt F) → (⟨S300000, .i1⟩ : BufTy).Contents (Elt F)),
    StableHlo.nullary main_c_184 (constantI S_ 32 30001#32),
    StableHlo.unary main_c_184 main_v503 (broadcastInDim S300000 ![] bcast_S_S300000 : (⟨S_, .i32⟩ : BufTy).Contents (Elt F) → (⟨S300000, .i32⟩ : BufTy).Contents (Elt F)),
    StableHlo.binary main_v496 main_v503 main_v504 (addi : (⟨S300000, .i32⟩ : BufTy).Contents (Elt F) → (⟨S300000, .i32⟩ : BufTy).Contents (Elt F) → (⟨S300000, .i32⟩ : BufTy).Contents (Elt F)),
    StableHlo.ternary main_v502 main_v504 main_v496 main_v505 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v505 main_v506 (broadcastInDim S300000x1 ![0] bcast_S300000_S300000x1_0 : (⟨S300000, .i32⟩ : BufTy).Contents (Elt F) → (⟨S300000x1, .i32⟩ : BufTy).Contents (Elt F)),
    StableHlo.ternary main_v492 main_v506 main_v500 main_v507 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v507 main_v508 ((extractStridedSlice S30000 ![0] · slices_S30001_S30000_0) : (⟨S30001, .i32⟩ : BufTy).Contents (Elt F) → (⟨S30000, .i32⟩ : BufTy).Contents (Elt F)),
    StableHlo.nullary main_c_185 (constantI S_ 32 0#32),
    StableHlo.unary main_c_185 main_v509 (broadcastInDim S30000 ![] bcast_S_S30000 : (⟨S_, .i32⟩ : BufTy).Contents (Elt F) → (⟨S30000, .i32⟩ : BufTy).Contents (Elt F)),
    StableHlo.binary main_v508 main_v509 main_v510 (cmpi .sge : (⟨S30000, .i32⟩ : BufTy).Contents (Elt F) → (⟨S30000, .i32⟩ : BufTy).Contents (Elt F) → (⟨S30000, .i1⟩ : BufTy).Contents (Elt F)),
    StableHlo.nullary main_c_186 (constantI S_ 32 262144#32) ]
theorem pc11_4_sub : (pc11_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub ..⟩
theorem pc11_4_fresh : (pc11_4 : List (HloOp τ sig (Elt F))).Forall fun op => op.fresh = ∅ :=
  ⟨rfl, rfl, rfl, rfl, rfl, rfl, rfl, rfl, rfl, rfl, rfl, rfl, rfl, rfl⟩
theorem pc11_4_nw : (pc11_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), unary_nw _ _ _ (by decide), nullary_nw _ _ (by decide), unary_nw _ _ _ (by decide), binary_nw _ _ _ _ (by decide), nullary_nw _ _ (by decide)⟩

/-- 17 operations of @floor_divide (main_call53), window 11, tlOps2: %511 … %511. -/
abbrev pc11_5 : List (HloOp τ sig (Elt F)) :=
  [ StableHlo.TRef.unary (.of main_c_186 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S30000, .i32⟩) (broadcastInDim S30000 ![] bcast_S_S30000),
    StableHlo.TRef.binary (.of main_v508 : StableHlo.TRef sig ⟨S30000, .i32⟩) (.of main_call53_v1 : StableHlo.TRef sig ⟨S30000, .i32⟩) (.of main_call53_v2 : StableHlo.TRef sig ⟨S30000, .i32⟩) Host.divsi,
    StableHlo.TRef.unary (.of main_v508 : StableHlo.TRef sig ⟨S30000, .i32⟩) (.of main_call53_v3 : StableHlo.TRef sig ⟨S30000, .i32⟩) signi,
    StableHlo.TRef.unary (.of main_call53_v0 : StableHlo.TRef sig ⟨S_, .i32⟩) (.of main_call53_v4 : StableHlo.TRef sig ⟨S_, .i32⟩) signi,
    StableHlo.TRef.unary (.of main_call53_v4 : StableHlo.TRef sig ⟨S_, .i32⟩) (.of main_call53_v5 : StableHlo.TRef sig ⟨S30000, .i32⟩) (broadcastInDim S30000 ![] bcast_S_S30000),
    StableHlo.TRef.binary (.of main_call53_v3 : StableHlo.TRef sig ⟨S30000, .i32⟩) (.of main_call53_v5 : StableHlo.TRef sig ⟨S30000, .i32⟩) (.of main_call53_v6 : StableHlo.TRef sig ⟨S30000, .i1⟩) (cmpi .ne),
    StableHlo.TRef.unary (.of main_call53_v0 : StableHlo.TRef sig ⟨S_, .i32⟩) (.of main_call53_v7 : StableHlo.TRef sig ⟨S30000, .i32⟩) (broadcastInDim S30000 ![] bcast_S_S30000),
    StableHlo.TRef.binary (.of main_v508 : StableHlo.TRef sig ⟨S30000, .i32⟩) (.of main_call53_v7 : StableHlo.TRef sig ⟨S30000, .i32⟩) (.of main_call53_v8 : StableHlo.TRef sig ⟨S30000, .i32⟩) Host.remsi,
    StableHlo.TRef.nullary (.of main_call53_c : StableHlo.TRef sig ⟨S_, .i32⟩) (constantI S_ 32 0#32),
    StableHlo.TRef.unary (.of main_call53_c : StableHlo.TRef sig ⟨S_, .i32⟩) (.of main_call53_v9 : StableHlo.TRef sig ⟨S30000, .i32⟩) (broadcastInDim S30000 ![] bcast_S_S30000),
    StableHlo.TRef.binary (.of main_call53_v8 : StableHlo.TRef sig ⟨S30000, .i32⟩) (.of main_call53_v9 : StableHlo.TRef sig ⟨S30000, .i32⟩) (.of main_call53_v10 : StableHlo.TRef sig ⟨S30000, .i1⟩) (cmpi .ne),
    StableHlo.TRef.binary (.of main_call53_v6 : StableHlo.TRef sig ⟨S30000, .i1⟩) (.of main_call53_v10 : StableHlo.TRef sig ⟨S30000, .i1⟩) (.of main_call53_v11 : StableHlo.TRef sig ⟨S30000, .i1⟩) andi,
    StableHlo.TRef.nullary (.of main_call53_c_0 : StableHlo.TRef sig ⟨S_, .i32⟩) (constantI S_ 32 1#32),
    StableHlo.TRef.unary (.of main_call53_c_0 : StableHlo.TRef sig ⟨S_, .i32⟩) (.of main_call53_v12 : StableHlo.TRef sig ⟨S30000, .i32⟩) (broadcastInDim S30000 ![] bcast_S_S30000),
    StableHlo.TRef.binary (.of main_call53_v2 : StableHlo.TRef sig ⟨S30000, .i32⟩) (.of main_call53_v12 : StableHlo.TRef sig ⟨S30000, .i32⟩) (.of main_call53_v13 : StableHlo.TRef sig ⟨S30000, .i32⟩) subi,
    StableHlo.TRef.ternary (.of main_call53_v11 : StableHlo.TRef sig ⟨S30000, .i1⟩) (.of main_call53_v13 : StableHlo.TRef sig ⟨S30000, .i32⟩) (.of main_call53_v2 : StableHlo.TRef sig ⟨S30000, .i32⟩) (.of main_v511 : StableHlo.TRef sig ⟨S30000, .i32⟩) select ]
theorem pc11_5_sub : (pc11_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc11_5_fresh : (pc11_5 : List (HloOp τ sig (Elt F))).Forall fun op => op.fresh = ∅ :=
  ⟨rfl, rfl, rfl, rfl, rfl, rfl, rfl, rfl, rfl, rfl, rfl, rfl, rfl, rfl, rfl, rfl, rfl⟩
theorem pc11_5_nw : (pc11_5 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 11, tlOps2: %c_187 … %c_187. -/
abbrev pc11_6 : List (HloOp τ sig (Elt F)) :=
  [ StableHlo.nullary main_c_187 (constantI S_ 32 4294967295#32) ]
theorem pc11_6_sub : (pc11_6 : List (HloOp τ sig (Elt F))).Forall fun op => op.bufs ⊆ StableHlo.tcRefs τ sig :=
  StableHlo.nullary_bufs_sub ..
theorem pc11_6_fresh : (pc11_6 : List (HloOp τ sig (Elt F))).Forall fun op => op.fresh = ∅ :=
  rfl
theorem pc11_6_nw : (pc11_6 : List (HloOp τ sig (Elt F))).Forall fun op => (Proc.devRef .tc main_arg0 : DevRef τ sig) ∉ op.writes :=
  nullary_nw _ _ (by decide)

/-- 3 operations of @where_3 (main_call54), window 11, tlOps2: %512 … %512. -/
abbrev pc11_7 : List (HloOp τ sig (Elt F)) :=
  [ StableHlo.TRef.unary (.of main_c_187 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S30000, .i32⟩) (broadcastInDim S30000 ![] bcast_S_S30000),
    StableHlo.TRef.ternary (.of main_v510 : StableHlo.TRef sig ⟨S30000, .i1⟩) (.of main_v511 : StableHlo.TRef sig ⟨S30000, .i32⟩) (.of main_call54_v1 : StableHlo.TRef sig ⟨S30000, .i32⟩) (.of main_v512 : StableHlo.TRef sig ⟨S30000, .i32⟩) select ]
theorem pc11_7_sub : (pc11_7 : List (HloOp τ sig (Elt F))).Forall fun op => op.bufs ⊆ StableHlo.tcRefs τ sig :=
  ⟨StableHlo.unary_bufs_sub .., StableHlo.unary_bufs_sub .., StableHlo.ternary_bufs_sub ..⟩
theorem pc11_7_fresh : (pc11_7 : List (HloOp τ sig (Elt F))).Forall fun op => op.fresh = ∅ :=
  ⟨rfl, rfl, rfl⟩
theorem pc11_7_nw : (pc11_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 11, tlOps2: %c_188 … %c_189. -/
abbrev pc11_8 : List (HloOp τ sig (Elt F)) :=
  [ StableHlo.nullary main_c_188 (constantI S_ 32 0#32),
    StableHlo.unary main_c_188 main_v513 (broadcastInDim S30000 ![] bcast_S_S30000 : (⟨S_, .i32⟩ : BufTy).Contents (Elt F) → (⟨S30000, .i32⟩ : BufTy).Contents (Elt F)),
    StableHlo.binary main_v508 main_v513 main_v514 (cmpi .sge : (⟨S30000, .i32⟩ : BufTy).Contents (Elt F) → (⟨S30000, .i32⟩ : BufTy).Contents (Elt F) → (⟨S30000, .i1⟩ : BufTy).Contents (Elt F)),
    StableHlo.nullary main_c_189 (constantI S_ 32 512#32) ]
theorem pc11_8_sub : (pc11_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc11_8_fresh : (pc11_8 : List (HloOp τ sig (Elt F))).Forall fun op => op.fresh = ∅ :=
  ⟨rfl, rfl, rfl, rfl⟩
theorem pc11_8_nw : (pc11_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 17 operations of @floor_divide (main_call55), window 11, tlOps2: %515 … %515. -/
abbrev pc11_9 : List (HloOp τ sig (Elt F)) :=
  [ StableHlo.TRef.unary (.of main_c_189 : StableHlo.TRef sig ⟨S_, .i32⟩) (.of main_call55_v0 : StableHlo.TRef sig ⟨S_, .i32⟩) id,
    StableHlo.TRef.unary (.of main_call55_v0 : StableHlo.TRef sig ⟨S_, .i32⟩) (.of main_call55_v1 : StableHlo.TRef sig ⟨S30000, .i32⟩) (broadcastInDim S30000 ![] bcast_S_S30000),
    StableHlo.TRef.binary (.of main_v508 : StableHlo.TRef sig ⟨S30000, .i32⟩) (.of main_call55_v1 : StableHlo.TRef sig ⟨S30000, .i32⟩) (.of main_call55_v2 : StableHlo.TRef sig ⟨S30000, .i32⟩) Host.divsi,
    StableHlo.TRef.unary (.of main_v508 : StableHlo.TRef sig ⟨S30000, .i32⟩) (.of main_call55_v3 : StableHlo.TRef sig ⟨S30000, .i32⟩) signi,
    StableHlo.TRef.unary (.of main_call55_v0 : StableHlo.TRef sig ⟨S_, .i32⟩) (.of main_call55_v4 : StableHlo.TRef sig ⟨S_, .i32⟩) signi,
    StableHlo.TRef.unary (.of main_call55_v4 : StableHlo.TRef sig ⟨S_, .i32⟩) (.of main_call55_v5 : StableHlo.TRef sig ⟨S30000, .i32⟩) (broadcastInDim S30000 ![] bcast_S_S30000),
    StableHlo.TRef.binary (.of main_call55_v3 : StableHlo.TRef sig ⟨S30000, .i32⟩) (.of main_call55_v5 : StableHlo.TRef sig ⟨S30000, .i32⟩) (.of main_call55_v6 : StableHlo.TRef sig ⟨S30000, .i1⟩) (cmpi .ne),
    StableHlo.TRef.unary (.of main_call55_v0 : StableHlo.TRef sig ⟨S_, .i32⟩) (.of main_call55_v7 : StableHlo.TRef sig ⟨S30000, .i32⟩) (broadcastInDim S30000 ![] bcast_S_S30000),
    StableHlo.TRef.binary (.of main_v508 : StableHlo.TRef sig ⟨S30000, .i32⟩) (.of main_call55_v7 : StableHlo.TRef sig ⟨S30000, .i32⟩) (.of main_call55_v8 : StableHlo.TRef sig ⟨S30000, .i32⟩) Host.remsi,
    StableHlo.TRef.nullary (.of main_call55_c : StableHlo.TRef sig ⟨S_, .i32⟩) (constantI S_ 32 0#32),
    StableHlo.TRef.unary (.of main_call55_c : StableHlo.TRef sig ⟨S_, .i32⟩) (.of main_call55_v9 : StableHlo.TRef sig ⟨S30000, .i32⟩) (broadcastInDim S30000 ![] bcast_S_S30000),
    StableHlo.TRef.binary (.of main_call55_v8 : StableHlo.TRef sig ⟨S30000, .i32⟩) (.of main_call55_v9 : StableHlo.TRef sig ⟨S30000, .i32⟩) (.of main_call55_v10 : StableHlo.TRef sig ⟨S30000, .i1⟩) (cmpi .ne),
    StableHlo.TRef.binary (.of main_call55_v6 : StableHlo.TRef sig ⟨S30000, .i1⟩) (.of main_call55_v10 : StableHlo.TRef sig ⟨S30000, .i1⟩) (.of main_call55_v11 : StableHlo.TRef sig ⟨S30000, .i1⟩) andi,
    StableHlo.TRef.nullary (.of main_call55_c_0 : StableHlo.TRef sig ⟨S_, .i32⟩) (constantI S_ 32 1#32),
    StableHlo.TRef.unary (.of main_call55_c_0 : StableHlo.TRef sig ⟨S_, .i32⟩) (.of main_call55_v12 : StableHlo.TRef sig ⟨S30000, .i32⟩) (broadcastInDim S30000 ![] bcast_S_S30000),
    StableHlo.TRef.binary (.of main_call55_v2 : StableHlo.TRef sig ⟨S30000, .i32⟩) (.of main_call55_v12 : StableHlo.TRef sig ⟨S30000, .i32⟩) (.of main_call55_v13 : StableHlo.TRef sig ⟨S30000, .i32⟩) subi,
    StableHlo.TRef.ternary (.of main_call55_v11 : StableHlo.TRef sig ⟨S30000, .i1⟩) (.of main_call55_v13 : StableHlo.TRef sig ⟨S30000, .i32⟩) (.of main_call55_v2 : StableHlo.TRef sig ⟨S30000, .i32⟩) (.of main_v515 : StableHlo.TRef sig ⟨S30000, .i32⟩) select ]
theorem pc11_9_sub : (pc11_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc11_9_fresh : (pc11_9 : List (HloOp τ sig (Elt F))).Forall fun op => op.fresh = ∅ :=
  ⟨rfl, rfl, rfl, rfl, rfl, rfl, rfl, rfl, rfl, rfl, rfl, rfl, rfl, rfl, rfl, rfl, rfl⟩
theorem pc11_9_nw : (pc11_9 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 11, tlOps2: %c_190 … %c_190. -/
abbrev pc11_10 : List (HloOp τ sig (Elt F)) :=
  [ StableHlo.nullary main_c_190 (constantI S_ 32 512#32) ]
theorem pc11_10_sub : (pc11_10 : List (HloOp τ sig (Elt F))).Forall fun op => op.bufs ⊆ StableHlo.tcRefs τ sig :=
  StableHlo.nullary_bufs_sub ..
theorem pc11_10_fresh : (pc11_10 : List (HloOp τ sig (Elt F))).Forall fun op => op.fresh = ∅ :=
  rfl
theorem pc11_10_nw : (pc11_10 : List (HloOp τ sig (Elt F))).Forall fun op => (Proc.devRef .tc main_arg0 : DevRef τ sig) ∉ op.writes :=
  nullary_nw _ _ (by decide)

/-- 21 operations of @remainder (main_call56), window 11, tlOps2: %516 … %516. -/
abbrev pc11_11 : List (HloOp τ sig (Elt F)) :=
  [ StableHlo.TRef.unary (.of main_c_190 : StableHlo.TRef sig ⟨S_, .i32⟩) (.of main_call56_v0 : StableHlo.TRef sig ⟨S_, .i32⟩) id,
    StableHlo.TRef.nullary (.of main_call56_c : StableHlo.TRef sig ⟨S_, .i32⟩) (constantI S_ 32 0#32),
    StableHlo.TRef.binary (.of main_call56_v0 : StableHlo.TRef sig ⟨S_, .i32⟩) (.of main_call56_c : StableHlo.TRef sig ⟨S_, .i32⟩) (.of main_call56_v1 : StableHlo.TRef sig ⟨S_, .i1⟩) (cmpi .eq),
    StableHlo.TRef.nullary (.of main_call56_c_0 : StableHlo.TRef sig ⟨S_, .i32⟩) (constantI S_ 32 1#32),
    StableHlo.TRef.ternary (.of main_call56_v1 : StableHlo.TRef sig ⟨S_, .i1⟩) (.of main_call56_c_0 : StableHlo.TRef sig ⟨S_, .i32⟩) (.of main_call56_v0 : StableHlo.TRef sig ⟨S_, .i32⟩) (.of main_call56_v2 : StableHlo.TRef sig ⟨S_, .i32⟩) select,
    StableHlo.TRef.unary (.of main_call56_v2 : StableHlo.TRef sig ⟨S_, .i32⟩) (.of main_call56_v3 : StableHlo.TRef sig ⟨S30000, .i32⟩) (broadcastInDim S30000 ![] bcast_S_S30000),
    StableHlo.TRef.binary (.of main_v515 : StableHlo.TRef sig ⟨S30000, .i32⟩) (.of main_call56_v3 : StableHlo.TRef sig ⟨S30000, .i32⟩) (.of main_call56_v4 : StableHlo.TRef sig ⟨S30000, .i32⟩) Host.remsi,
    StableHlo.TRef.nullary (.of main_call56_c_1 : StableHlo.TRef sig ⟨S_, .i32⟩) (constantI S_ 32 0#32),
    StableHlo.TRef.unary (.of main_call56_c_1 : StableHlo.TRef sig ⟨S_, .i32⟩) (.of main_call56_v5 : StableHlo.TRef sig ⟨S30000, .i32⟩) (broadcastInDim S30000 ![] bcast_S_S30000),
    StableHlo.TRef.binary (.of main_call56_v4 : StableHlo.TRef sig ⟨S30000, .i32⟩) (.of main_call56_v5 : StableHlo.TRef sig ⟨S30000, .i32⟩) (.of main_call56_v6 : StableHlo.TRef sig ⟨S30000, .i1⟩) (cmpi .ne),
    StableHlo.TRef.nullary (.of main_call56_c_2 : StableHlo.TRef sig ⟨S_, .i32⟩) (constantI S_ 32 0#32),
    StableHlo.TRef.unary (.of main_call56_c_2 : StableHlo.TRef sig ⟨S_, .i32⟩) (.of main_call56_v7 : StableHlo.TRef sig ⟨S30000, .i32⟩) (broadcastInDim S30000 ![] bcast_S_S30000),
    StableHlo.TRef.binary (.of main_call56_v4 : StableHlo.TRef sig ⟨S30000, .i32⟩) (.of main_call56_v7 : StableHlo.TRef sig ⟨S30000, .i32⟩) (.of main_call56_v8 : StableHlo.TRef sig ⟨S30000, .i1⟩) (cmpi .slt),
    StableHlo.TRef.nullary (.of main_call56_c_3 : StableHlo.TRef sig ⟨S_, .i32⟩) (constantI S_ 32 0#32),
    StableHlo.TRef.binary (.of main_call56_v2 : StableHlo.TRef sig ⟨S_, .i32⟩) (.of main_call56_c_3 : StableHlo.TRef sig ⟨S_, .i32⟩) (.of main_call56_v9 : StableHlo.TRef sig ⟨S_, .i1⟩) (cmpi .slt),
    StableHlo.TRef.unary (.of main_call56_v9 : StableHlo.TRef sig ⟨S_, .i1⟩) (.of main_call56_v10 : StableHlo.TRef sig ⟨S30000, .i1⟩) (broadcastInDim S30000 ![] bcast_S_S30000),
    StableHlo.TRef.binary (.of main_call56_v8 : StableHlo.TRef sig ⟨S30000, .i1⟩) (.of main_call56_v10 : StableHlo.TRef sig ⟨S30000, .i1⟩) (.of main_call56_v11 : StableHlo.TRef sig ⟨S30000, .i1⟩) (cmpi .ne),
    StableHlo.TRef.binary (.of main_call56_v11 : StableHlo.TRef sig ⟨S30000, .i1⟩) (.of main_call56_v6 : StableHlo.TRef sig ⟨S30000, .i1⟩) (.of main_call56_v12 : StableHlo.TRef sig ⟨S30000, .i1⟩) andi,
    StableHlo.TRef.unary (.of main_call56_v2 : StableHlo.TRef sig ⟨S_, .i32⟩) (.of main_call56_v13 : StableHlo.TRef sig ⟨S30000, .i32⟩) (broadcastInDim S30000 ![] bcast_S_S30000),
    StableHlo.TRef.binary (.of main_call56_v4 : StableHlo.TRef sig ⟨S30000, .i32⟩) (.of main_call56_v13 : StableHlo.TRef sig ⟨S30000, .i32⟩) (.of main_call56_v14 : StableHlo.TRef sig ⟨S30000, .i32⟩) addi,
    StableHlo.TRef.ternary (.of main_call56_v12 : StableHlo.TRef sig ⟨S30000, .i1⟩) (.of main_call56_v14 : StableHlo.TRef sig ⟨S30000, .i32⟩) (.of main_call56_v4 : StableHlo.TRef sig ⟨S30000, .i32⟩) (.of main_v516 : StableHlo.TRef sig ⟨S30000, .i32⟩) select ]
theorem pc11_11_sub : (pc11_11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc11_11_fresh : (pc11_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc11_11_nw : (pc11_11 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 11, tlOps2: %c_191 … %c_191. -/
abbrev pc11_12 : List (HloOp τ sig (Elt F)) :=
  [ StableHlo.nullary main_c_191 (constantI S_ 32 4294967295#32) ]
theorem pc11_12_sub : (pc11_12 : List (HloOp τ sig (Elt F))).Forall fun op => op.bufs ⊆ StableHlo.tcRefs τ sig :=
  StableHlo.nullary_bufs_sub ..
theorem pc11_12_fresh : (pc11_12 : List (HloOp τ sig (Elt F))).Forall fun op => op.fresh = ∅ :=
  rfl
theorem pc11_12_nw : (pc11_12 : List (HloOp τ sig (Elt F))).Forall fun op => (Proc.devRef .tc main_arg0 : DevRef τ sig) ∉ op.writes :=
  nullary_nw _ _ (by decide)

/-- 3 operations of @where_3 (main_call57), window 11, tlOps2: %517 … %517. -/
abbrev pc11_13 : List (HloOp τ sig (Elt F)) :=
  [ StableHlo.TRef.unary (.of main_c_191 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S30000, .i32⟩) (broadcastInDim S30000 ![] bcast_S_S30000),
    StableHlo.TRef.ternary (.of main_v514 : StableHlo.TRef sig ⟨S30000, .i1⟩) (.of main_v516 : StableHlo.TRef sig ⟨S30000, .i32⟩) (.of main_call57_v1 : StableHlo.TRef sig ⟨S30000, .i32⟩) (.of main_v517 : StableHlo.TRef sig ⟨S30000, .i32⟩) select ]
theorem pc11_13_sub : (pc11_13 : List (HloOp τ sig (Elt F))).Forall fun op => op.bufs ⊆ StableHlo.tcRefs τ sig :=
  ⟨StableHlo.unary_bufs_sub .., StableHlo.unary_bufs_sub .., StableHlo.ternary_bufs_sub ..⟩
theorem pc11_13_fresh : (pc11_13 : List (HloOp τ sig (Elt F))).Forall fun op => op.fresh = ∅ :=
  ⟨rfl, rfl, rfl⟩
theorem pc11_13_nw : (pc11_13 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 11, tlOps2: %c_192 … %c_193. -/
abbrev pc11_14 : List (HloOp τ sig (Elt F)) :=
  [ StableHlo.nullary main_c_192 (constantI S_ 32 0#32),
    StableHlo.unary main_c_192 main_v518 (broadcastInDim S30000 ![] bcast_S_S30000 : (⟨S_, .i32⟩ : BufTy).Contents (Elt F) → (⟨S30000, .i32⟩ : BufTy).Contents (Elt F)),
    StableHlo.binary main_v508 main_v518 main_v519 (cmpi .sge : (⟨S30000, .i32⟩ : BufTy).Contents (Elt F) → (⟨S30000, .i32⟩ : BufTy).Contents (Elt F) → (⟨S30000, .i1⟩ : BufTy).Contents (Elt F)),
    StableHlo.nullary main_c_193 (constantI S_ 32 512#32) ]
theorem pc11_14_sub : (pc11_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc11_14_fresh : (pc11_14 : List (HloOp τ sig (Elt F))).Forall fun op => op.fresh = ∅ :=
  ⟨rfl, rfl, rfl, rfl⟩
theorem pc11_14_nw : (pc11_14 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 21 operations of @remainder (main_call58), window 11, tlOps2: %520 … %520. -/
abbrev pc11_15 : List (HloOp τ sig (Elt F)) :=
  [ StableHlo.TRef.unary (.of main_c_193 : StableHlo.TRef sig ⟨S_, .i32⟩) (.of main_call58_v0 : StableHlo.TRef sig ⟨S_, .i32⟩) id,
    StableHlo.TRef.nullary (.of main_call58_c : StableHlo.TRef sig ⟨S_, .i32⟩) (constantI S_ 32 0#32),
    StableHlo.TRef.binary (.of main_call58_v0 : StableHlo.TRef sig ⟨S_, .i32⟩) (.of main_call58_c : StableHlo.TRef sig ⟨S_, .i32⟩) (.of main_call58_v1 : StableHlo.TRef sig ⟨S_, .i1⟩) (cmpi .eq),
    StableHlo.TRef.nullary (.of main_call58_c_0 : StableHlo.TRef sig ⟨S_, .i32⟩) (constantI S_ 32 1#32),
    StableHlo.TRef.ternary (.of main_call58_v1 : StableHlo.TRef sig ⟨S_, .i1⟩) (.of main_call58_c_0 : StableHlo.TRef sig ⟨S_, .i32⟩) (.of main_call58_v0 : StableHlo.TRef sig ⟨S_, .i32⟩) (.of main_call58_v2 : StableHlo.TRef sig ⟨S_, .i32⟩) select,
    StableHlo.TRef.unary (.of main_call58_v2 : StableHlo.TRef sig ⟨S_, .i32⟩) (.of main_call58_v3 : StableHlo.TRef sig ⟨S30000, .i32⟩) (broadcastInDim S30000 ![] bcast_S_S30000),
    StableHlo.TRef.binary (.of main_v508 : StableHlo.TRef sig ⟨S30000, .i32⟩) (.of main_call58_v3 : StableHlo.TRef sig ⟨S30000, .i32⟩) (.of main_call58_v4 : StableHlo.TRef sig ⟨S30000, .i32⟩) Host.remsi,
    StableHlo.TRef.nullary (.of main_call58_c_1 : StableHlo.TRef sig ⟨S_, .i32⟩) (constantI S_ 32 0#32),
    StableHlo.TRef.unary (.of main_call58_c_1 : StableHlo.TRef sig ⟨S_, .i32⟩) (.of main_call58_v5 : StableHlo.TRef sig ⟨S30000, .i32⟩) (broadcastInDim S30000 ![] bcast_S_S30000),
    StableHlo.TRef.binary (.of main_call58_v4 : StableHlo.TRef sig ⟨S30000, .i32⟩) (.of main_call58_v5 : StableHlo.TRef sig ⟨S30000, .i32⟩) (.of main_call58_v6 : StableHlo.TRef sig ⟨S30000, .i1⟩) (cmpi .ne),
    StableHlo.TRef.nullary (.of main_call58_c_2 : StableHlo.TRef sig ⟨S_, .i32⟩) (constantI S_ 32 0#32),
    StableHlo.TRef.unary (.of main_call58_c_2 : StableHlo.TRef sig ⟨S_, .i32⟩) (.of main_call58_v7 : StableHlo.TRef sig ⟨S30000, .i32⟩) (broadcastInDim S30000 ![] bcast_S_S30000),
    StableHlo.TRef.binary (.of main_call58_v4 : StableHlo.TRef sig ⟨S30000, .i32⟩) (.of main_call58_v7 : StableHlo.TRef sig ⟨S30000, .i32⟩) (.of main_call58_v8 : StableHlo.TRef sig ⟨S30000, .i1⟩) (cmpi .slt),
    StableHlo.TRef.nullary (.of main_call58_c_3 : StableHlo.TRef sig ⟨S_, .i32⟩) (constantI S_ 32 0#32),
    StableHlo.TRef.binary (.of main_call58_v2 : StableHlo.TRef sig ⟨S_, .i32⟩) (.of main_call58_c_3 : StableHlo.TRef sig ⟨S_, .i32⟩) (.of main_call58_v9 : StableHlo.TRef sig ⟨S_, .i1⟩) (cmpi .slt),
    StableHlo.TRef.unary (.of main_call58_v9 : StableHlo.TRef sig ⟨S_, .i1⟩) (.of main_call58_v10 : StableHlo.TRef sig ⟨S30000, .i1⟩) (broadcastInDim S30000 ![] bcast_S_S30000),
    StableHlo.TRef.binary (.of main_call58_v8 : StableHlo.TRef sig ⟨S30000, .i1⟩) (.of main_call58_v10 : StableHlo.TRef sig ⟨S30000, .i1⟩) (.of main_call58_v11 : StableHlo.TRef sig ⟨S30000, .i1⟩) (cmpi .ne),
    StableHlo.TRef.binary (.of main_call58_v11 : StableHlo.TRef sig ⟨S30000, .i1⟩) (.of main_call58_v6 : StableHlo.TRef sig ⟨S30000, .i1⟩) (.of main_call58_v12 : StableHlo.TRef sig ⟨S30000, .i1⟩) andi,
    StableHlo.TRef.unary (.of main_call58_v2 : StableHlo.TRef sig ⟨S_, .i32⟩) (.of main_call58_v13 : StableHlo.TRef sig ⟨S30000, .i32⟩) (broadcastInDim S30000 ![] bcast_S_S30000),
    StableHlo.TRef.binary (.of main_call58_v4 : StableHlo.TRef sig ⟨S30000, .i32⟩) (.of main_call58_v13 : StableHlo.TRef sig ⟨S30000, .i32⟩) (.of main_call58_v14 : StableHlo.TRef sig ⟨S30000, .i32⟩) addi,
    StableHlo.TRef.ternary (.of main_call58_v12 : StableHlo.TRef sig ⟨S30000, .i1⟩) (.of main_call58_v14 : StableHlo.TRef sig ⟨S30000, .i32⟩) (.of main_call58_v4 : StableHlo.TRef sig ⟨S30000, .i32⟩) (.of main_v520 : StableHlo.TRef sig ⟨S30000, .i32⟩) select ]
theorem pc11_15_sub : (pc11_15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc11_15_fresh : (pc11_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc11_15_nw : (pc11_15 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 11, tlOps2: %c_194 … %c_194. -/
abbrev pc11_16 : List (HloOp τ sig (Elt F)) :=
  [ StableHlo.nullary main_c_194 (constantI S_ 32 4294967295#32) ]
theorem pc11_16_sub : (pc11_16 : List (HloOp τ sig (Elt F))).Forall fun op => op.bufs ⊆ StableHlo.tcRefs τ sig :=
  StableHlo.nullary_bufs_sub ..
theorem pc11_16_fresh : (pc11_16 : List (HloOp τ sig (Elt F))).Forall fun op => op.fresh = ∅ :=
  rfl
theorem pc11_16_nw : (pc11_16 : List (HloOp τ sig (Elt F))).Forall fun op => (Proc.devRef .tc main_arg0 : DevRef τ sig) ∉ op.writes :=
  nullary_nw _ _ (by decide)

/-- 3 operations of @where_3 (main_call59), window 11, tlOps2: %521 … %521. -/
abbrev pc11_17 : List (HloOp τ sig (Elt F)) :=
  [ StableHlo.TRef.unary (.of main_c_194 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S30000, .i32⟩) (broadcastInDim S30000 ![] bcast_S_S30000),
    StableHlo.TRef.ternary (.of main_v519 : StableHlo.TRef sig ⟨S30000, .i1⟩) (.of main_v520 : StableHlo.TRef sig ⟨S30000, .i32⟩) (.of main_call59_v1 : StableHlo.TRef sig ⟨S30000, .i32⟩) (.of main_v521 : StableHlo.TRef sig ⟨S30000, .i32⟩) select ]
theorem pc11_17_sub : (pc11_17 : List (HloOp τ sig (Elt F))).Forall fun op => op.bufs ⊆ StableHlo.tcRefs τ sig :=
  ⟨StableHlo.unary_bufs_sub .., StableHlo.unary_bufs_sub .., StableHlo.ternary_bufs_sub ..⟩
theorem pc11_17_fresh : (pc11_17 : List (HloOp τ sig (Elt F))).Forall fun op => op.fresh = ∅ :=
  ⟨rfl, rfl, rfl⟩
theorem pc11_17_nw : (pc11_17 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 1 operations of @main, window 11, tlOps2: %522 … %522. -/
abbrev pc11_18 : List (HloOp τ sig (Elt F)) :=
  [ StableHlo.unary main_v512 main_v522 (broadcastInDim S30000x1 ![0] bcast_S30000_S30000x1_0 : (⟨S30000, .i32⟩ : BufTy).Contents (Elt F) → (⟨S30000x1, .i32⟩ : BufTy).Contents (Elt F)) ]
theorem pc11_18_sub : (pc11_18 : List (HloOp τ sig (Elt F))).Forall fun op => op.bufs ⊆ StableHlo.tcRefs τ sig :=
  StableHlo.unary_bufs_sub ..
theorem pc11_18_fresh : (pc11_18 : List (HloOp τ sig (Elt F))).Forall fun op => op.fresh = ∅ :=
  rfl
theorem pc11_18_nw : (pc11_18 : List (HloOp τ sig (Elt F))).Forall fun op => (Proc.devRef .tc main_arg0 : DevRef τ sig) ∉ op.writes :=
  unary_nw _ _ _ (by decide)

/-- 6 operations of @main, window 12, tlOps2: %523 … %527. -/
abbrev pc12_0 : List (HloOp τ sig (Elt F)) :=
  [ StableHlo.unary main_v517 main_v523 (broadcastInDim S30000x1 ![0] bcast_S30000_S30000x1_0 : (⟨S30000, .i32⟩ : BufTy).Contents (Elt F) → (⟨S30000x1, .i32⟩ : BufTy).Contents (Elt F)),
    StableHlo.unary main_v521 main_v524 (broadcastInDim S30000x1 ![0] bcast_S30000_S30000x1_0 : (⟨S30000, .i32⟩ : BufTy).Contents (Elt F) → (⟨S30000x1, .i32⟩ : BufTy).Contents (Elt F)),
    StableHlo.nary ![main_v522, main_v523, main_v524] main_v525 (fun u => concatenate S30000x3 1 [⟨S30000x1, u 0⟩, ⟨S30000x1, u 1⟩, ⟨S30000x1, u 2⟩] concatenates_S30000x1_S30000x1_S30000x1_S30000x3_d1),
    StableHlo.nullary main_c_195 (constantI S_ 32 2#32),
    StableHlo.unary main_c_195 main_v526 (broadcastInDim S30000x1 ![] bcast_S_S30000x1 : (⟨S_, .i32⟩ : BufTy).Contents (Elt F) → (⟨S30000x1, .i32⟩ : BufTy).Contents (Elt F)),
    StableHlo.binary main_v526 main_v525 main_v527 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]
theorem pc12_0_sub : (pc12_0 : List (HloOp τ sig (Elt F))).Forall fun op => op.bufs ⊆ StableHlo.tcRefs τ sig :=
  ⟨StableHlo.unary_bufs_sub .., StableHlo.unary_bufs_sub .., StableHlo.nary_bufs_sub .., StableHlo.nullary_bufs_sub .., StableHlo.unary_bufs_sub .., StableHlo.binary_bufs_sub ..⟩
theorem pc12_0_fresh : (pc12_0 : List (HloOp τ sig (Elt F))).Forall fun op => op.fresh = ∅ :=
  ⟨rfl, rfl, rfl, rfl, rfl, rfl⟩
theorem pc12_0_nw : (pc12_0 : List (HloOp τ sig (Elt F))).Forall fun op => (Proc.devRef .tc main_arg0 : DevRef τ sig) ∉ op.writes :=
  ⟨unary_nw _ _ _ (by decide), unary_nw _ _ _ (by decide), nary_nw _ _ _ _ (by decide), nullary_nw _ _ (by decide), unary_nw _ _ _ (by decide), binary_nw _ _ _ _ (by decide)⟩

/-- 23 operations of @main, window 12, ptsOps3: %528 … %541. -/
abbrev pc12_1 : List (HloOp τ sig (Elt F)) :=
  [ StableHlo.unary main_arg0 main_v528 ((extractStridedSlice S1x300000x5 ![3, 0, 0] · slices_S4x300000x5_S1x300000x5_3_0_0) : (⟨S4x300000x5, .f32⟩ : BufTy).Contents (Elt F) → (⟨S1x300000x5, .f32⟩ : BufTy).Contents (Elt F)),
    StableHlo.reshape main_v528 main_v529 rfl shapeCasts_S1x300000x5_S300000x5,
    StableHlo.nullary main_c_196 (constantI S_ 32 0#32),
    StableHlo.unary main_c_196 main_v530 (broadcastInDim S1 ![] bcast_S_S1 : (⟨S_, .i32⟩ : BufTy).Contents (Elt F) → (⟨S1, .i32⟩ : BufTy).Contents (Elt F)),
    StableHlo.nullary main_c_197 (constantI S_ 32 0#32),
    StableHlo.unary main_c_197 main_v531 (broadcastInDim S1 ![] bcast_S_S1 : (⟨S_, .i32⟩ : BufTy).Contents (Elt F) → (⟨S1, .i32⟩ : BufTy).Contents (Elt F)),
    StableHlo.binary main_v530 main_v531 main_v532 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_198 (constant S_ .f32 0x3F400000#32),
    StableHlo.ternary main_v529 main_v532 main_cst_198 main_v533 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_199 (constantI S_ 32 0#32),
    StableHlo.unary main_c_199 main_v534 (broadcastInDim S1 ![] bcast_S_S1 : (⟨S_, .i32⟩ : BufTy).Contents (Elt F) → (⟨S1, .i32⟩ : BufTy).Contents (Elt F)),
    StableHlo.nullary main_c_200 (constantI S_ 32 1#32),
    StableHlo.unary main_c_200 main_v535 (broadcastInDim S1 ![] bcast_S_S1 : (⟨S_, .i32⟩ : BufTy).Contents (Elt F) → (⟨S1, .i32⟩ : BufTy).Contents (Elt F)),
    StableHlo.binary main_v534 main_v535 main_v536 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_201 (constant S_ .f32 0x3E800000#32),
    StableHlo.ternary main_v533 main_v536 main_cst_201 main_v537 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)),
    StableHlo.nullary main_c_202 (constantI S_ 32 0#32),
    StableHlo.unary main_c_202 main_v538 (broadcastInDim S1 ![] bcast_S_S1 : (⟨S_, .i32⟩ : BufTy).Contents (Elt F) → (⟨S1, .i32⟩ : BufTy).Contents (Elt F)),
    StableHlo.nullary main_c_203 (constantI S_ 32 2#32),
    StableHlo.unary main_c_203 main_v539 (broadcastInDim S1 ![] bcast_S_S1 : (⟨S_, .i32⟩ : BufTy).Contents (Elt F) → (⟨S1, .i32⟩ : BufTy).Contents (Elt F)),
    StableHlo.binary main_v538 main_v539 main_v540 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_204 (constant S_ .f32 0x40000000#32),
    StableHlo.ternary main_v537 main_v540 main_cst_204 main_v541 ((fun x i u => Host.scatter scatter_S300000x5_S2_S__n_01_01_0 (fun _ b => b) x i u) : (⟨S300000x5, .f32⟩ : BufTy).Contents (Elt F) → (⟨S2, .i32⟩ : BufTy).Contents (Elt F) → (⟨S_, .f32⟩ : BufTy).Contents (Elt F) → (⟨S300000x5, .f32⟩ : BufTy).Contents (Elt F)) ]
theorem pc12_1_sub : (pc12_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.ternary_bufs_sub ..⟩
theorem pc12_1_fresh : (pc12_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pc12_1_nw : (pc12_1 : List (HloOp τ sig (Elt F))).Forall fun op => (Proc.devRef .tc main_arg0 : DevRef τ sig) ∉ op.writes :=
  ⟨unary_nw _ _ _ (by decide), reshape_nw _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide), nullary_nw _ _ (by decide), unary_nw _ _ _ (by decide), nullary_nw _ _ (by decide), unary_nw _ _ _ (by decide), binary_nw _ _ _ _ (by decide), nullary_nw _ _ (by decide), ternary_nw _ _ _ _ _ (by decide)⟩

/-- 31 operations of @main, window 12, linOps3: %542 … %568. -/
abbrev pc12_2 : List (HloOp τ sig (Elt F)) :=
  [ StableHlo.unary main_v541 main_v542 ((extractStridedSlice S300000x3 ![0, 0] · slices_S300000x5_S300000x3_0_0) : (⟨S300000x5, .f32⟩ : BufTy).Contents (Elt F) → (⟨S300000x3, .f32⟩ : BufTy).Contents (Elt F)),
    StableHlo.unary main_cst main_v543 (broadcastInDim S1x3 ![1] bcast_S3_S1x3_1 : (⟨S3, .f32⟩ : BufTy).Contents (Elt F) → (⟨S1x3, .f32⟩ : BufTy).Contents (Elt F)),
    StableHlo.unary main_v543 main_v544 (broadcastInDim S300000x3 ![0, 1] bcast_S1x3_S300000x3_0_1 : (⟨S1x3, .f32⟩ : BufTy).Contents (Elt F) → (⟨S300000x3, .f32⟩ : BufTy).Contents (Elt F)),
    StableHlo.binary main_v542 main_v544 main_v545 (subf : (⟨S300000x3, .f32⟩ : BufTy).Contents (Elt F) → (⟨S300000x3, .f32⟩ : BufTy).Contents (Elt F) → (⟨S300000x3, .f32⟩ : BufTy).Contents (Elt F)),
    StableHlo.unary main_cst_0 main_v546 (broadcastInDim S1x3 ![1] bcast_S3_S1x3_1 : (⟨S3, .f32⟩ : BufTy).Contents (Elt F) → (⟨S1x3, .f32⟩ : BufTy).Contents (Elt F)),
    StableHlo.unary main_v546 main_v547 (broadcastInDim S300000x3 ![0, 1] bcast_S1x3_S300000x3_0_1 : (⟨S1x3, .f32⟩ : BufTy).Contents (Elt F) → (⟨S300000x3, .f32⟩ : BufTy).Contents (Elt F)),
    StableHlo.binary main_v545 main_v547 main_v548 (Host.divf : (⟨S300000x3, .f32⟩ : BufTy).Contents (Elt F) → (⟨S300000x3, .f32⟩ : BufTy).Contents (Elt F) → (⟨S300000x3, .f32⟩ : BufTy).Contents (Elt F)),
    StableHlo.unary main_v548 main_v549 (Host.floor : (⟨S300000x3, .f32⟩ : BufTy).Contents (Elt F) → (⟨S300000x3, .f32⟩ : BufTy).Contents (Elt F)),
    StableHlo.unary main_v549 main_v550 (fptosi 32 : (⟨S300000x3, .f32⟩ : BufTy).Contents (Elt F) → (⟨S300000x3, .i32⟩ : BufTy).Contents (Elt F)),
    StableHlo.nullary main_c_205 (constantI S_ 32 0#32),
    StableHlo.unary main_c_205 main_v551 (broadcastInDim S300000x3 ![] bcast_S_S300000x3 : (⟨S_, .i32⟩ : BufTy).Contents (Elt F) → (⟨S300000x3, .i32⟩ : BufTy).Contents (Elt F)),
    StableHlo.binary main_v550 main_v551 main_v552 (cmpi .sge : (⟨S300000x3, .i32⟩ : BufTy).Contents (Elt F) → (⟨S300000x3, .i32⟩ : BufTy).Contents (Elt F) → (⟨S300000x3, .i1⟩ : BufTy).Contents (Elt F)),
    StableHlo.unary main_c main_v553 (broadcastInDim S1x3 ![1] bcast_S3_S1x3_1 : (⟨S3, .i32⟩ : BufTy).Contents (Elt F) → (⟨S1x3, .i32⟩ : BufTy).Contents (Elt F)),
    StableHlo.unary main_v553 main_v554 (broadcastInDim S300000x3 ![0, 1] bcast_S1x3_S300000x3_0_1 : (⟨S1x3, .i32⟩ : BufTy).Contents (Elt F) → (⟨S300000x3, .i32⟩ : BufTy).Contents (Elt F)),
    StableHlo.binary main_v550 main_v554 main_v555 (cmpi .slt : (⟨S300000x3, .i32⟩ : BufTy).Contents (Elt F) → (⟨S300000x3, .i32⟩ : BufTy).Contents (Elt F) → (⟨S300000x3, .i1⟩ : BufTy).Contents (Elt F)),
    StableHlo.binary main_v552 main_v555 main_v556 (andi : (⟨S300000x3, .i1⟩ : BufTy).Contents (Elt F) → (⟨S300000x3, .i1⟩ : BufTy).Contents (Elt F) → (⟨S300000x3, .i1⟩ : BufTy).Contents (Elt F)),
    StableHlo.nullary main_c_206 (constantI S_ 1 1#1),
    StableHlo.binary main_v556 main_c_206 main_v557 ((fun x v => Host.reduce IntOp.andi x v reducesTo_S300000x3_S300000_d1 h_S_) : (⟨S300000x3, .i1⟩ : BufTy).Contents (Elt F) → (⟨S_, .i1⟩ : BufTy).Contents (Elt F) → (⟨S300000, .i1⟩ : BufTy).Contents (Elt F)),
    StableHlo.unary main_v550 main_v558 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v558 main_v559 rfl shapeCasts_S300000x1_S300000,
    StableHlo.nullary main_c_207 (constantI S_ 32 512#32),
    StableHlo.unary main_c_207 main_v560 (broadcastInDim S300000 ![] bcast_S_S300000 : (⟨S_, .i32⟩ : BufTy).Contents (Elt F) → (⟨S300000, .i32⟩ : BufTy).Contents (Elt F)),
    StableHlo.binary main_v559 main_v560 main_v561 (muli : (⟨S300000, .i32⟩ : BufTy).Contents (Elt F) → (⟨S300000, .i32⟩ : BufTy).Contents (Elt F) → (⟨S300000, .i32⟩ : BufTy).Contents (Elt F)),
    StableHlo.unary main_v550 main_v562 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v562 main_v563 rfl shapeCasts_S300000x1_S300000,
    StableHlo.binary main_v561 main_v563 main_v564 (addi : (⟨S300000, .i32⟩ : BufTy).Contents (Elt F) → (⟨S300000, .i32⟩ : BufTy).Contents (Elt F) → (⟨S300000, .i32⟩ : BufTy).Contents (Elt F)),
    StableHlo.nullary main_c_208 (constantI S_ 32 512#32),
    StableHlo.unary main_c_208 main_v565 (broadcastInDim S300000 ![] bcast_S_S300000 : (⟨S_, .i32⟩ : BufTy).Contents (Elt F) → (⟨S300000, .i32⟩ : BufTy).Contents (Elt F)),
    StableHlo.binary main_v564 main_v565 main_v566 (muli : (⟨S300000, .i32⟩ : BufTy).Contents (Elt F) → (⟨S300000, .i32⟩ : BufTy).Contents (Elt F) → (⟨S300000, .i32⟩ : BufTy).Contents (Elt F)),
    StableHlo.unary main_v550 main_v567 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v567 main_v568 rfl shapeCasts_S300000x1_S300000 ]
theorem pc12_2_sub : (pc12_2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub ..⟩
theorem pc12_2_fresh : (pc12_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pc12_2_nw : (pc12_2 : List (HloOp τ sig (Elt F))).Forall fun op => (Proc.devRef .tc main_arg0 : DevRef τ sig) ∉ op.writes :=
  ⟨unary_nw _ _ _ (by decide), unary_nw _ _ _ (by decide), unary_nw _ _ _ (by decide), binary_nw _ _ _ _ (by decide), unary_nw _ _ _ (by decide), unary_nw _ _ _ (by decide), binary_nw _ _ _ _ (by decide), unary_nw _ _ _ (by decide), unary_nw _ _ _ (by decide), nullary_nw _ _ (by decide), unary_nw _ _ _ (by decide), binary_nw _ _ _ _ (by decide), unary_nw _ _ _ (by decide), unary_nw _ _ _ (by decide), binary_nw _ _ _ _ (by decide), binary_nw _ _ _ _ (by decide), nullary_nw _ _ (by decide), binary_nw _ _ _ _ (by decide), unary_nw _ _ _ (by decide), reshape_nw _ _ _ _ (by decide), nullary_nw _ _ (by decide), unary_nw _ _ _ (by decide), binary_nw _ _ _ _ (by decide), unary_nw _ _ _ (by decide), reshape_nw _ _ _ _ (by decide), binary_nw _ _ _ _ (by decide), nullary_nw _ _ (by decide), unary_nw _ _ _ (by decide), binary_nw _ _ _ _ (by decide), unary_nw _ _ _ (by decide), reshape_nw _ _ _ _ (by decide)⟩

/-- 2 operations of @main, window 13, linOps3: %569 … %c_209. -/
abbrev pc13_0 : List (HloOp τ sig (Elt F)) :=
  [ StableHlo.binary main_v566 main_v568 main_v569 (addi : (⟨S300000, .i32⟩ : BufTy).Contents (Elt F) → (⟨S300000, .i32⟩ : BufTy).Contents (Elt F) → (⟨S300000, .i32⟩ : BufTy).Contents (Elt F)),
    StableHlo.nullary main_c_209 (constantI S_ 32 262144#32) ]
theorem pc13_0_sub : (pc13_0 : List (HloOp τ sig (Elt F))).Forall fun op => op.bufs ⊆ StableHlo.tcRefs τ sig :=
  ⟨StableHlo.binary_bufs_sub .., StableHlo.nullary_bufs_sub ..⟩
theorem pc13_0_fresh : (pc13_0 : List (HloOp τ sig (Elt F))).Forall fun op => op.fresh = ∅ :=
  ⟨rfl, rfl⟩
theorem pc13_0_nw : (pc13_0 : List (HloOp τ sig (Elt F))).Forall fun op => (Proc.devRef .tc main_arg0 : DevRef τ sig) ∉ op.writes :=
  ⟨binary_nw _ _ _ _ (by decide), nullary_nw _ _ (by decide)⟩

/-- 3 operations of @where (main_call60), window 13, linOps3: %570 … %570. -/
abbrev pc13_1 : List (HloOp τ sig (Elt F)) :=
  [ StableHlo.TRef.unary (.of main_c_209 : StableHlo.TRef sig ⟨S_, .i32⟩) (.of main_call60_v0 : StableHlo.TRef sig ⟨S_, .i32⟩) id,
    StableHlo.TRef.unary (.of main_call60_v0 : StableHlo.TRef sig ⟨S_, .i32⟩) (.of main_call60_v1 : StableHlo.TRef sig ⟨S300000, .i32⟩) (broadcastInDim S300000 ![] bcast_S_S300000),
    StableHlo.TRef.ternary (.of main_v557 : StableHlo.TRef sig ⟨S300000, .i1⟩) (.of main_v569 : StableHlo.TRef sig ⟨S300000, .i32⟩) (.of main_call60_v1 : StableHlo.TRef sig ⟨S300000, .i32⟩) (.of main_v570 : StableHlo.TRef sig ⟨S300000, .i32⟩) select ]
theorem pc13_1_sub : (pc13_1 : List (HloOp τ sig (Elt F))).Forall fun op => op.bufs ⊆ StableHlo.tcRefs τ sig :=
  ⟨StableHlo.unary_bufs_sub .., StableHlo.unary_bufs_sub .., StableHlo.ternary_bufs_sub ..⟩
theorem pc13_1_fresh : (pc13_1 : List (HloOp τ sig (Elt F))).Forall fun op => op.fresh = ∅ :=
  ⟨rfl, rfl, rfl⟩
theorem pc13_1_nw : (pc13_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 24 operations of @main, window 13, tlOps3: %571 … %589. -/
abbrev pc13_2 : List (HloOp τ sig (Elt F)) :=
  [ StableHlo.nullary main_v571 (iotaInDim S300000 32 0),
    StableHlo.nullary main_c_210 (constantI S_ 32 300000#32),
    StableHlo.unary main_c_210 main_v572 (broadcastInDim S262145 ![] bcast_S_S262145 : (⟨S_, .i32⟩ : BufTy).Contents (Elt F) → (⟨S262145, .i32⟩ : BufTy).Contents (Elt F)),
    StableHlo.nullary main_c_211 (constantI S_ 32 0#32),
    StableHlo.unary main_c_211 main_v573 (broadcastInDim S300000 ![] bcast_S_S300000 : (⟨S_, .i32⟩ : BufTy).Contents (Elt F) → (⟨S300000, .i32⟩ : BufTy).Contents (Elt F)),
    StableHlo.binary main_v570 main_v573 main_v574 (cmpi .slt : (⟨S300000, .i32⟩ : BufTy).Contents (Elt F) → (⟨S300000, .i32⟩ : BufTy).Contents (Elt F) → (⟨S300000, .i1⟩ : BufTy).Contents (Elt F)),
    StableHlo.nullary main_c_212 (constantI S_ 32 262145#32),
    StableHlo.unary main_c_212 main_v575 (broadcastInDim S300000 ![] bcast_S_S300000 : (⟨S_, .i32⟩ : BufTy).Contents (Elt F) → (⟨S300000, .i32⟩ : BufTy).Contents (Elt F)),
    StableHlo.binary main_v570 main_v575 main_v576 (addi : (⟨S300000, .i32⟩ : BufTy).Contents (Elt F) → (⟨S300000, .i32⟩ : BufTy).Contents (Elt F) → (⟨S300000, .i32⟩ : BufTy).Contents (Elt F)),
    StableHlo.ternary main_v574 main_v576 main_v570 main_v577 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v577 main_v578 (broadcastInDim S300000x1 ![0] bcast_S300000_S300000x1_0 : (⟨S300000, .i32⟩ : BufTy).Contents (Elt F) → (⟨S300000x1, .i32⟩ : BufTy).Contents (Elt F)),
    StableHlo.ternary main_v572 main_v578 main_v571 main_v579 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_213 (constantI S_ 32 0#32),
    StableHlo.unary main_c_213 main_v580 (broadcastInDim S300000 ![] bcast_S_S300000 : (⟨S_, .i32⟩ : BufTy).Contents (Elt F) → (⟨S300000, .i32⟩ : BufTy).Contents (Elt F)),
    StableHlo.binary main_v570 main_v580 main_v581 (cmpi .slt : (⟨S300000, .i32⟩ : BufTy).Contents (Elt F) → (⟨S300000, .i32⟩ : BufTy).Contents (Elt F) → (⟨S300000, .i1⟩ : BufTy).Contents (Elt F)),
    StableHlo.nullary main_c_214 (constantI S_ 32 262145#32),
    StableHlo.unary main_c_214 main_v582 (broadcastInDim S300000 ![] bcast_S_S300000 : (⟨S_, .i32⟩ : BufTy).Contents (Elt F) → (⟨S300000, .i32⟩ : BufTy).Contents (Elt F)),
    StableHlo.binary main_v570 main_v582 main_v583 (addi : (⟨S300000, .i32⟩ : BufTy).Contents (Elt F) → (⟨S300000, .i32⟩ : BufTy).Contents (Elt F) → (⟨S300000, .i32⟩ : BufTy).Contents (Elt F)),
    StableHlo.ternary main_v581 main_v583 main_v570 main_v584 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v584 main_v585 (broadcastInDim S300000x1 ![0] bcast_S300000_S300000x1_0 : (⟨S300000, .i32⟩ : BufTy).Contents (Elt F) → (⟨S300000x1, .i32⟩ : BufTy).Contents (Elt F)),
    StableHlo.binary main_v579 main_v585 main_v586 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v586 main_v571 main_v587 (cmpi .eq : (⟨S300000, .i32⟩ : BufTy).Contents (Elt F) → (⟨S300000, .i32⟩ : BufTy).Contents (Elt F) → (⟨S300000, .i1⟩ : BufTy).Contents (Elt F)),
    StableHlo.binary main_v557 main_v587 main_v588 (andi : (⟨S300000, .i1⟩ : BufTy).Contents (Elt F) → (⟨S300000, .i1⟩ : BufTy).Contents (Elt F) → (⟨S300000, .i1⟩ : BufTy).Contents (Elt F)),
    StableHlo.unary main_v588 main_v589 ((extui 32 · natLt_1_32) : (⟨S300000, .i1⟩ : BufTy).Contents (Elt F) → (⟨S300000, .i32⟩ : BufTy).Contents (Elt F)) ]
theorem pc13_2_sub : (pc13_2 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩
theorem pc13_2_fresh : (pc13_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem pc13_2_nw : (pc13_2 : List (HloOp τ sig (Elt F))).Forall fun op => (Proc.devRef .tc main_arg0 : DevRef τ sig) ∉ op.writes :=
  ⟨nullary_nw _ _ (by decide), nullary_nw _ _ (by decide), unary_nw _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), binary_nw _ _ _ _ (by decide), binary_nw _ _ _ _ (by decide), unary_nw _ _ _ (by decide)⟩

/-- 3 operations of @cumsum (main_call61), window 13, tlOps3: %590 … %590. -/
abbrev pc13_3 : List (HloOp τ sig (Elt F)) :=
  [ StableHlo.TRef.nullary (.of main_call61_call0_c : StableHlo.TRef sig ⟨S_, .i32⟩) (constantI S_ 32 0#32),
    StableHlo.TRef.unary (.of main_call61_call0_c : StableHlo.TRef sig ⟨S_, .i32⟩) (.of main_call61_call0_v0 : StableHlo.TRef sig ⟨S_, .i32⟩) (broadcastInDim S_ ![] bcast_S_S_),
    StableHlo.TRef.binary (.of main_v589 : StableHlo.TRef sig ⟨S300000, .i32⟩) (.of main_call61_call0_v0 : StableHlo.TRef sig ⟨S_, .i32⟩) (.of main_v590 : StableHlo.TRef sig ⟨S300000, .i32⟩) (fun x v => Host.reduceWindow IntOp.addi ![300000] ![1] ![299999] ![0] x v reduceWindows_S300000_S300000_w300000s1p299999_0 h_S_) ]
theorem pc13_3_sub : (pc13_3 : List (HloOp τ sig (Elt F))).Forall fun op => op.bufs ⊆ StableHlo.tcRefs τ sig :=
  ⟨StableHlo.nullary_bufs_sub .., StableHlo.unary_bufs_sub .., StableHlo.binary_bufs_sub ..⟩
theorem pc13_3_fresh : (pc13_3 : List (HloOp τ sig (Elt F))).Forall fun op => op.fresh = ∅ :=
  ⟨rfl, rfl, rfl⟩
theorem pc13_3_nw : (pc13_3 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 6 operations of @main, window 13, tlOps3: %c_215 … %c_217. -/
abbrev pc13_4 : List (HloOp τ sig (Elt F)) :=
  [ StableHlo.nullary main_c_215 (constantI S_ 32 1#32),
    StableHlo.unary main_c_215 main_v591 (broadcastInDim S300000 ![] bcast_S_S300000 : (⟨S_, .i32⟩ : BufTy).Contents (Elt F) → (⟨S300000, .i32⟩ : BufTy).Contents (Elt F)),
    StableHlo.binary main_v590 main_v591 main_v592 (subi : (⟨S300000, .i32⟩ : BufTy).Contents (Elt F) → (⟨S300000, .i32⟩ : BufTy).Contents (Elt F) → (⟨S300000, .i32⟩ : BufTy).Contents (Elt F)),
    StableHlo.nullary main_c_216 (constantI S_ 32 30000#32),
    StableHlo.unary main_c_216 main_v593 (broadcastInDim S262145 ![] bcast_S_S262145 : (⟨S_, .i32⟩ : BufTy).Contents (Elt F) → (⟨S262145, .i32⟩ : BufTy).Contents (Elt F)),
    StableHlo.nullary main_c_217 (constantI S_ 32 262144#32) ]
theorem pc13_4_sub : (pc13_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub ..⟩
theorem pc13_4_fresh : (pc13_4 : List (HloOp τ sig (Elt F))).Forall fun op => op.fresh = ∅ :=
  ⟨rfl, rfl, rfl, rfl, rfl, rfl⟩
theorem pc13_4_nw : (pc13_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), nullary_nw _ _ (by decide)⟩

/-- 3 operations of @where (main_call62), window 13, tlOps3: %594 … %594. -/
abbrev pc13_5 : List (HloOp τ sig (Elt F)) :=
  [ StableHlo.TRef.unary (.of main_c_217 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S300000, .i32⟩) (broadcastInDim S300000 ![] bcast_S_S300000),
    StableHlo.TRef.ternary (.of main_v588 : StableHlo.TRef sig ⟨S300000, .i1⟩) (.of main_v570 : StableHlo.TRef sig ⟨S300000, .i32⟩) (.of main_call62_v1 : StableHlo.TRef sig ⟨S300000, .i32⟩) (.of main_v594 : StableHlo.TRef sig ⟨S300000, .i32⟩) select ]
theorem pc13_5_sub : (pc13_5 : List (HloOp τ sig (Elt F))).Forall fun op => op.bufs ⊆ StableHlo.tcRefs τ sig :=
  ⟨StableHlo.unary_bufs_sub .., StableHlo.unary_bufs_sub .., StableHlo.ternary_bufs_sub ..⟩
theorem pc13_5_fresh : (pc13_5 : List (HloOp τ sig (Elt F))).Forall fun op => op.fresh = ∅ :=
  ⟨rfl, rfl, rfl⟩
theorem pc13_5_nw : (pc13_5 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 13, tlOps3: %c_218 … %c_219. -/
abbrev pc13_6 : List (HloOp τ sig (Elt F)) :=
  [ StableHlo.nullary main_c_218 (constantI S_ 32 30000#32),
    StableHlo.unary main_c_218 main_v595 (broadcastInDim S300000 ![] bcast_S_S300000 : (⟨S_, .i32⟩ : BufTy).Contents (Elt F) → (⟨S300000, .i32⟩ : BufTy).Contents (Elt F)),
    StableHlo.binary main_v592 main_v595 main_v596 (minsi : (⟨S300000, .i32⟩ : BufTy).Contents (Elt F) → (⟨S300000, .i32⟩ : BufTy).Contents (Elt F) → (⟨S300000, .i32⟩ : BufTy).Contents (Elt F)),
    StableHlo.nullary main_c_219 (constantI S_ 32 30000#32) ]
theorem pc13_6_sub : (pc13_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc13_6_fresh : (pc13_6 : List (HloOp τ sig (Elt F))).Forall fun op => op.fresh = ∅ :=
  ⟨rfl, rfl, rfl, rfl⟩
theorem pc13_6_nw : (pc13_6 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 3 operations of @where (main_call63), window 13, tlOps3: %597 … %597. -/
abbrev pc13_7 : List (HloOp τ sig (Elt F)) :=
  [ StableHlo.TRef.unary (.of main_c_219 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S300000, .i32⟩) (broadcastInDim S300000 ![] bcast_S_S300000),
    StableHlo.TRef.ternary (.of main_v588 : StableHlo.TRef sig ⟨S300000, .i1⟩) (.of main_v596 : StableHlo.TRef sig ⟨S300000, .i32⟩) (.of main_call63_v1 : StableHlo.TRef sig ⟨S300000, .i32⟩) (.of main_v597 : StableHlo.TRef sig ⟨S300000, .i32⟩) select ]
theorem pc13_7_sub : (pc13_7 : List (HloOp τ sig (Elt F))).Forall fun op => op.bufs ⊆ StableHlo.tcRefs τ sig :=
  ⟨StableHlo.unary_bufs_sub .., StableHlo.unary_bufs_sub .., StableHlo.ternary_bufs_sub ..⟩
theorem pc13_7_fresh : (pc13_7 : List (HloOp τ sig (Elt F))).Forall fun op => op.fresh = ∅ :=
  ⟨rfl, rfl, rfl⟩
theorem pc13_7_nw : (pc13_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 19 operations of @main, window 13, tlOps3: %c_220 … %c_224. -/
abbrev pc13_8 : List (HloOp τ sig (Elt F)) :=
  [ StableHlo.nullary main_c_220 (constantI S_ 32 0#32),
    StableHlo.unary main_c_220 main_v598 (broadcastInDim S300000 ![] bcast_S_S300000 : (⟨S_, .i32⟩ : BufTy).Contents (Elt F) → (⟨S300000, .i32⟩ : BufTy).Contents (Elt F)),
    StableHlo.binary main_v594 main_v598 main_v599 (cmpi .slt : (⟨S300000, .i32⟩ : BufTy).Contents (Elt F) → (⟨S300000, .i32⟩ : BufTy).Contents (Elt F) → (⟨S300000, .i1⟩ : BufTy).Contents (Elt F)),
    StableHlo.nullary main_c_221 (constantI S_ 32 262145#32),
    StableHlo.unary main_c_221 main_v600 (broadcastInDim S300000 ![] bcast_S_S300000 : (⟨S_, .i32⟩ : BufTy).Contents (Elt F) → (⟨S300000, .i32⟩ : BufTy).Contents (Elt F)),
    StableHlo.binary main_v594 main_v600 main_v601 (addi : (⟨S300000, .i32⟩ : BufTy).Contents (Elt F) → (⟨S300000, .i32⟩ : BufTy).Contents (Elt F) → (⟨S300000, .i32⟩ : BufTy).Contents (Elt F)),
    StableHlo.ternary main_v599 main_v601 main_v594 main_v602 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v602 main_v603 (broadcastInDim S300000x1 ![0] bcast_S300000_S300000x1_0 : (⟨S300000, .i32⟩ : BufTy).Contents (Elt F) → (⟨S300000x1, .i32⟩ : BufTy).Contents (Elt F)),
    StableHlo.ternary main_v593 main_v603 main_v597 main_v604 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_222 (constantI S_ 32 0#32),
    StableHlo.unary main_c_222 main_v605 (broadcastInDim S300000 ![] bcast_S_S300000 : (⟨S_, .i32⟩ : BufTy).Contents (Elt F) → (⟨S300000, .i32⟩ : BufTy).Contents (Elt F)),
    StableHlo.binary main_v570 main_v605 main_v606 (cmpi .slt : (⟨S300000, .i32⟩ : BufTy).Contents (Elt F) → (⟨S300000, .i32⟩ : BufTy).Contents (Elt F) → (⟨S300000, .i1⟩ : BufTy).Contents (Elt F)),
    StableHlo.nullary main_c_223 (constantI S_ 32 262145#32),
    StableHlo.unary main_c_223 main_v607 (broadcastInDim S300000 ![] bcast_S_S300000 : (⟨S_, .i32⟩ : BufTy).Contents (Elt F) → (⟨S300000, .i32⟩ : BufTy).Contents (Elt F)),
    StableHlo.binary main_v570 main_v607 main_v608 (addi : (⟨S300000, .i32⟩ : BufTy).Contents (Elt F) → (⟨S300000, .i32⟩ : BufTy).Contents (Elt F) → (⟨S300000, .i32⟩ : BufTy).Contents (Elt F)),
    StableHlo.ternary main_v606 main_v608 main_v570 main_v609 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v609 main_v610 (broadcastInDim S300000x1 ![0] bcast_S300000_S300000x1_0 : (⟨S300000, .i32⟩ : BufTy).Contents (Elt F) → (⟨S300000x1, .i32⟩ : BufTy).Contents (Elt F)),
    StableHlo.binary main_v604 main_v610 main_v611 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_224 (constantI S_ 32 30000#32) ]
theorem pc13_8_sub : (pc13_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem pc13_8_fresh : (pc13_8 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pc13_8_nw : (pc13_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide)⟩

/-- 3 operations of @where (main_call64), window 13, tlOps3: %612 … %612. -/
abbrev pc13_9 : List (HloOp τ sig (Elt F)) :=
  [ StableHlo.TRef.unary (.of main_c_224 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S300000, .i32⟩) (broadcastInDim S300000 ![] bcast_S_S300000),
    StableHlo.TRef.ternary (.of main_v557 : StableHlo.TRef sig ⟨S300000, .i1⟩) (.of main_v611 : StableHlo.TRef sig ⟨S300000, .i32⟩) (.of main_call64_v1 : StableHlo.TRef sig ⟨S300000, .i32⟩) (.of main_v612 : StableHlo.TRef sig ⟨S300000, .i32⟩) select ]
theorem pc13_9_sub : (pc13_9 : List (HloOp τ sig (Elt F))).Forall fun op => op.bufs ⊆ StableHlo.tcRefs τ sig :=
  ⟨StableHlo.unary_bufs_sub .., StableHlo.unary_bufs_sub .., StableHlo.ternary_bufs_sub ..⟩
theorem pc13_9_fresh : (pc13_9 : List (HloOp τ sig (Elt F))).Forall fun op => op.fresh = ∅ :=
  ⟨rfl, rfl, rfl⟩
theorem pc13_9_nw : (pc13_9 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @argsort (main_call65), window 14, tlOps3: %613 … %613. -/
abbrev pc14_0 : List (HloOp τ sig (Elt F)) :=
  [ StableHlo.TRef.nullary (.of main_call65_v0 : StableHlo.TRef sig ⟨S300000, .i32⟩) (iotaInDim S300000 32 0),
    StableHlo.TRef.binary (.of main_v570 : StableHlo.TRef sig ⟨S300000, .i32⟩) (.of main_call65_v0 : StableHlo.TRef sig ⟨S300000, .i32⟩) (.of main_call65_v1_0 : StableHlo.TRef sig ⟨S300000, .i32⟩) (fun x y => (Host.sort2 S300000 0 comparator_i32_i32_d0 x y).1),
    StableHlo.TRef.binary (.of main_v570 : StableHlo.TRef sig ⟨S300000, .i32⟩) (.of main_call65_v0 : StableHlo.TRef sig ⟨S300000, .i32⟩) (.of main_v613 : StableHlo.TRef sig ⟨S300000, .i32⟩) (fun x y => (Host.sort2 S300000 0 comparator_i32_i32_d0 x y).2) ]
theorem pc14_0_sub : (pc14_0 : List (HloOp τ sig (Elt F))).Forall fun op => op.bufs ⊆ StableHlo.tcRefs τ sig :=
  ⟨StableHlo.nullary_bufs_sub .., StableHlo.binary_bufs_sub .., StableHlo.binary_bufs_sub ..⟩
theorem pc14_0_fresh : (pc14_0 : List (HloOp τ sig (Elt F))).Forall fun op => op.fresh = ∅ :=
  ⟨rfl, rfl, rfl⟩
theorem pc14_0_nw : (pc14_0 : List (HloOp τ sig (Elt F))).Forall fun op => (Proc.devRef .tc main_arg0 : DevRef τ sig) ∉ op.writes :=
  ⟨nullary_nw _ _ (by decide), binary_nw _ _ _ _ (by decide), binary_nw _ _ _ _ (by decide)⟩

/-- 16 operations of @main, window 14, tlOps3: %c_225 … %c_228. -/
abbrev pc14_1 : List (HloOp τ sig (Elt F)) :=
  [ StableHlo.nullary main_c_225 (constantI S_ 32 0#32),
    StableHlo.unary main_c_225 main_v614 (broadcastInDim S300000 ![] bcast_S_S300000 : (⟨S_, .i32⟩ : BufTy).Contents (Elt F) → (⟨S300000, .i32⟩ : BufTy).Contents (Elt F)),
    StableHlo.binary main_v613 main_v614 main_v615 (cmpi .slt : (⟨S300000, .i32⟩ : BufTy).Contents (Elt F) → (⟨S300000, .i32⟩ : BufTy).Contents (Elt F) → (⟨S300000, .i1⟩ : BufTy).Contents (Elt F)),
    StableHlo.nullary main_c_226 (constantI S_ 32 300000#32),
    StableHlo.unary main_c_226 main_v616 (broadcastInDim S300000 ![] bcast_S_S300000 : (⟨S_, .i32⟩ : BufTy).Contents (Elt F) → (⟨S300000, .i32⟩ : BufTy).Contents (Elt F)),
    StableHlo.binary main_v613 main_v616 main_v617 (addi : (⟨S300000, .i32⟩ : BufTy).Contents (Elt F) → (⟨S300000, .i32⟩ : BufTy).Contents (Elt F) → (⟨S300000, .i32⟩ : BufTy).Contents (Elt F)),
    StableHlo.ternary main_v615 main_v617 main_v613 main_v618 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v618 main_v619 (broadcastInDim S300000x1 ![0] bcast_S300000_S300000x1_0 : (⟨S300000, .i32⟩ : BufTy).Contents (Elt F) → (⟨S300000x1, .i32⟩ : BufTy).Contents (Elt F)),
    StableHlo.binary main_v570 main_v619 main_v620 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_227 (constantI S_ 1 1#1),
    StableHlo.unary main_c_227 main_v621 (broadcastInDim S1 ![] bcast_S_S1 : (⟨S_, .i1⟩ : BufTy).Contents (Elt F) → (⟨S1, .i1⟩ : BufTy).Contents (Elt F)),
    StableHlo.unary main_v620 main_v622 ((extractStridedSlice S299999 ![1] · slices_S300000_S299999_1) : (⟨S300000, .i32⟩ : BufTy).Contents (Elt F) → (⟨S299999, .i32⟩ : BufTy).Contents (Elt F)),
    StableHlo.unary main_v620 main_v623 ((extractStridedSlice S299999 ![0] · slices_S300000_S299999_0) : (⟨S300000, .i32⟩ : BufTy).Contents (Elt F) → (⟨S299999, .i32⟩ : BufTy).Contents (Elt F)),
    StableHlo.binary main_v622 main_v623 main_v624 (cmpi .ne : (⟨S299999, .i32⟩ : BufTy).Contents (Elt F) → (⟨S299999, .i32⟩ : BufTy).Contents (Elt F) → (⟨S299999, .i1⟩ : BufTy).Contents (Elt F)),
    StableHlo.binary main_v621 main_v624 main_v625 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_228 (constantI S_ 32 0#32) ]
theorem pc14_1_sub : (pc14_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩
theorem pc14_1_fresh : (pc14_1 : List (HloOp τ sig (Elt F))).Forall fun op => op.fresh = ∅ :=
  ⟨rfl, rfl, rfl, rfl, rfl, rfl, rfl, rfl, rfl, rfl, rfl, rfl, rfl, rfl, rfl, rfl⟩
theorem pc14_1_nw : (pc14_1 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), binary_nw _ _ _ _ (by decide), nullary_nw _ _ (by decide), unary_nw _ _ _ (by decide), unary_nw _ _ _ (by decide), unary_nw _ _ _ (by decide), binary_nw _ _ _ _ (by decide), binary_nw _ _ _ _ (by decide), nullary_nw _ _ (by decide)⟩

/-- 3 operations of @where (main_call66), window 14, tlOps3: %626 … %626. -/
abbrev pc14_2 : List (HloOp τ sig (Elt F)) :=
  [ StableHlo.TRef.unary (.of main_c_228 : StableHlo.TRef sig ⟨S_, .i32⟩) (.of main_call66_v0 : StableHlo.TRef sig ⟨S_, .i32⟩) id,
    StableHlo.TRef.unary (.of main_call66_v0 : StableHlo.TRef sig ⟨S_, .i32⟩) (.of main_call66_v1 : StableHlo.TRef sig ⟨S300000, .i32⟩) (broadcastInDim S300000 ![] bcast_S_S300000),
    StableHlo.TRef.ternary (.of main_v625 : StableHlo.TRef sig ⟨S300000, .i1⟩) (.of main_v571 : StableHlo.TRef sig ⟨S300000, .i32⟩) (.of main_call66_v1 : StableHlo.TRef sig ⟨S300000, .i32⟩) (.of main_v626 : StableHlo.TRef sig ⟨S300000, .i32⟩) select ]
theorem pc14_2_sub : (pc14_2 : List (HloOp τ sig (Elt F))).Forall fun op => op.bufs ⊆ StableHlo.tcRefs τ sig :=
  ⟨StableHlo.unary_bufs_sub .., StableHlo.unary_bufs_sub .., StableHlo.ternary_bufs_sub ..⟩
theorem pc14_2_fresh : (pc14_2 : List (HloOp τ sig (Elt F))).Forall fun op => op.fresh = ∅ :=
  ⟨rfl, rfl, rfl⟩
theorem pc14_2_nw : (pc14_2 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 3 operations of @cummax (main_call67), window 14, tlOps3: %627 … %627. -/
abbrev pc14_3 : List (HloOp τ sig (Elt F)) :=
  [ StableHlo.TRef.nullary (.of main_call67_c : StableHlo.TRef sig ⟨S_, .i32⟩) (constantI S_ 32 2147483648#32),
    StableHlo.TRef.unary (.of main_call67_c : StableHlo.TRef sig ⟨S_, .i32⟩) (.of main_call67_v0 : StableHlo.TRef sig ⟨S_, .i32⟩) (broadcastInDim S_ ![] bcast_S_S_),
    StableHlo.TRef.binary (.of main_v626 : StableHlo.TRef sig ⟨S300000, .i32⟩) (.of main_call67_v0 : StableHlo.TRef sig ⟨S_, .i32⟩) (.of main_v627 : StableHlo.TRef sig ⟨S300000, .i32⟩) (fun x v => Host.reduceWindow IntOp.maxsi ![300000] ![1] ![299999] ![0] x v reduceWindows_S300000_S300000_w300000s1p299999_0 h_S_) ]
theorem pc14_3_sub : (pc14_3 : List (HloOp τ sig (Elt F))).Forall fun op => op.bufs ⊆ StableHlo.tcRefs τ sig :=
  ⟨StableHlo.nullary_bufs_sub .., StableHlo.unary_bufs_sub .., StableHlo.binary_bufs_sub ..⟩
theorem pc14_3_fresh : (pc14_3 : List (HloOp τ sig (Elt F))).Forall fun op => op.fresh = ∅ :=
  ⟨rfl, rfl, rfl⟩
theorem pc14_3_nw : (pc14_3 : List (HloOp τ sig (Elt F))).Forall fun op => (Proc.devRef .tc main_arg0 : DevRef τ sig) ∉ op.writes :=
  ⟨nullary_nw _ _ (by decide), unary_nw _ _ _ (by decide), binary_nw _ _ _ _ (by decide)⟩

/-- 21 operations of @main, window 14, tlOps3: %c_229 … %c_234. -/
abbrev pc14_4 : List (HloOp τ sig (Elt F)) :=
  [ StableHlo.nullary main_c_229 (constantI S_ 32 0#32),
    StableHlo.unary main_c_229 main_v628 (broadcastInDim S300000 ![] bcast_S_S300000 : (⟨S_, .i32⟩ : BufTy).Contents (Elt F) → (⟨S300000, .i32⟩ : BufTy).Contents (Elt F)),
    StableHlo.binary main_v571 main_v627 main_v629 (subi : (⟨S300000, .i32⟩ : BufTy).Contents (Elt F) → (⟨S300000, .i32⟩ : BufTy).Contents (Elt F) → (⟨S300000, .i32⟩ : BufTy).Contents (Elt F)),
    StableHlo.nullary main_c_230 (constantI S_ 32 0#32),
    StableHlo.unary main_c_230 main_v630 (broadcastInDim S300000 ![] bcast_S_S300000 : (⟨S_, .i32⟩ : BufTy).Contents (Elt F) → (⟨S300000, .i32⟩ : BufTy).Contents (Elt F)),
    StableHlo.binary main_v613 main_v630 main_v631 (cmpi .slt : (⟨S300000, .i32⟩ : BufTy).Contents (Elt F) → (⟨S300000, .i32⟩ : BufTy).Contents (Elt F) → (⟨S300000, .i1⟩ : BufTy).Contents (Elt F)),
    StableHlo.nullary main_c_231 (constantI S_ 32 300000#32),
    StableHlo.unary main_c_231 main_v632 (broadcastInDim S300000 ![] bcast_S_S300000 : (⟨S_, .i32⟩ : BufTy).Contents (Elt F) → (⟨S300000, .i32⟩ : BufTy).Contents (Elt F)),
    StableHlo.binary main_v613 main_v632 main_v633 (addi : (⟨S300000, .i32⟩ : BufTy).Contents (Elt F) → (⟨S300000, .i32⟩ : BufTy).Contents (Elt F) → (⟨S300000, .i32⟩ : BufTy).Contents (Elt F)),
    StableHlo.ternary main_v631 main_v633 main_v613 main_v634 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v634 main_v635 (broadcastInDim S300000x1 ![0] bcast_S300000_S300000x1_0 : (⟨S300000, .i32⟩ : BufTy).Contents (Elt F) → (⟨S300000x1, .i32⟩ : BufTy).Contents (Elt F)),
    StableHlo.ternary main_v628 main_v635 main_v629 main_v636 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_232 (constantI S_ 32 30000#32),
    StableHlo.unary main_c_232 main_v637 (broadcastInDim S300000 ![] bcast_S_S300000 : (⟨S_, .i32⟩ : BufTy).Contents (Elt F) → (⟨S300000, .i32⟩ : BufTy).Contents (Elt F)),
    StableHlo.binary main_v612 main_v637 main_v638 (cmpi .slt : (⟨S300000, .i32⟩ : BufTy).Contents (Elt F) → (⟨S300000, .i32⟩ : BufTy).Contents (Elt F) → (⟨S300000, .i1⟩ : BufTy).Contents (Elt F)),
    StableHlo.binary main_v557 main_v638 main_v639 (andi : (⟨S300000, .i1⟩ : BufTy).Contents (Elt F) → (⟨S300000, .i1⟩ : BufTy).Contents (Elt F) → (⟨S300000, .i1⟩ : BufTy).Contents (Elt F)),
    StableHlo.nullary main_c_233 (constantI S_ 32 20#32),
    StableHlo.unary main_c_233 main_v640 (broadcastInDim S300000 ![] bcast_S_S300000 : (⟨S_, .i32⟩ : BufTy).Contents (Elt F) → (⟨S300000, .i32⟩ : BufTy).Contents (Elt F)),
    StableHlo.binary main_v636 main_v640 main_v641 (cmpi .slt : (⟨S300000, .i32⟩ : BufTy).Contents (Elt F) → (⟨S300000, .i32⟩ : BufTy).Contents (Elt F) → (⟨S300000, .i1⟩ : BufTy).Contents (Elt F)),
    StableHlo.binary main_v639 main_v641 main_v642 (andi : (⟨S300000, .i1⟩ : BufTy).Contents (Elt F) → (⟨S300000, .i1⟩ : BufTy).Contents (Elt F) → (⟨S300000, .i1⟩ : BufTy).Contents (Elt F)),
    StableHlo.nullary main_c_234 (constantI S_ 32 30000#32) ]
theorem pc14_4_sub : (pc14_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem pc14_4_fresh : (pc14_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc14_4_nw : (pc14_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), binary_nw _ _ _ _ (by decide), nullary_nw _ _ (by decide)⟩

/-- 3 operations of @where (main_call68), window 14, tlOps3: %643 … %643. -/
abbrev pc14_5 : List (HloOp τ sig (Elt F)) :=
  [ StableHlo.TRef.unary (.of main_c_234 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S300000, .i32⟩) (broadcastInDim S300000 ![] bcast_S_S300000),
    StableHlo.TRef.ternary (.of main_v642 : StableHlo.TRef sig ⟨S300000, .i1⟩) (.of main_v612 : StableHlo.TRef sig ⟨S300000, .i32⟩) (.of main_call68_v1 : StableHlo.TRef sig ⟨S300000, .i32⟩) (.of main_v643 : StableHlo.TRef sig ⟨S300000, .i32⟩) select ]
theorem pc14_5_sub : (pc14_5 : List (HloOp τ sig (Elt F))).Forall fun op => op.bufs ⊆ StableHlo.tcRefs τ sig :=
  ⟨StableHlo.unary_bufs_sub .., StableHlo.unary_bufs_sub .., StableHlo.ternary_bufs_sub ..⟩
theorem pc14_5_fresh : (pc14_5 : List (HloOp τ sig (Elt F))).Forall fun op => op.fresh = ∅ :=
  ⟨rfl, rfl, rfl⟩
theorem pc14_5_nw : (pc14_5 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 1 operations of @main, window 14, tlOps3: %c_235 … %c_235. -/
abbrev pc14_6 : List (HloOp τ sig (Elt F)) :=
  [ StableHlo.nullary main_c_235 (constantI S_ 32 0#32) ]
theorem pc14_6_sub : (pc14_6 : List (HloOp τ sig (Elt F))).Forall fun op => op.bufs ⊆ StableHlo.tcRefs τ sig :=
  StableHlo.nullary_bufs_sub ..
theorem pc14_6_fresh : (pc14_6 : List (HloOp τ sig (Elt F))).Forall fun op => op.fresh = ∅ :=
  rfl
theorem pc14_6_nw : (pc14_6 : List (HloOp τ sig (Elt F))).Forall fun op => (Proc.devRef .tc main_arg0 : DevRef τ sig) ∉ op.writes :=
  nullary_nw _ _ (by decide)

/-- 3 operations of @where (main_call69), window 14, tlOps3: %644 … %644. -/
abbrev pc14_7 : List (HloOp τ sig (Elt F)) :=
  [ StableHlo.TRef.unary (.of main_c_235 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S300000, .i32⟩) (broadcastInDim S300000 ![] bcast_S_S300000),
    StableHlo.TRef.ternary (.of main_v642 : StableHlo.TRef sig ⟨S300000, .i1⟩) (.of main_v636 : StableHlo.TRef sig ⟨S300000, .i32⟩) (.of main_call69_v1 : StableHlo.TRef sig ⟨S300000, .i32⟩) (.of main_v644 : StableHlo.TRef sig ⟨S300000, .i32⟩) select ]
theorem pc14_7_sub : (pc14_7 : List (HloOp τ sig (Elt F))).Forall fun op => op.bufs ⊆ StableHlo.tcRefs τ sig :=
  ⟨StableHlo.unary_bufs_sub .., StableHlo.unary_bufs_sub .., StableHlo.ternary_bufs_sub ..⟩
theorem pc14_7_fresh : (pc14_7 : List (HloOp τ sig (Elt F))).Forall fun op => op.fresh = ∅ :=
  ⟨rfl, rfl, rfl⟩
theorem pc14_7_nw : (pc14_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 14, tlOps3: %cst_236 … %cst_237. -/
abbrev pc14_8 : List (HloOp τ sig (Elt F)) :=
  [ StableHlo.nullary main_cst_236 (constant S_ .f32 0x00000000#32),
    StableHlo.unary main_cst_236 main_v645 (broadcastInDim S30001x20x5 ![] bcast_S_S30001x20x5 : (⟨S_, .f32⟩ : BufTy).Contents (Elt F) → (⟨S30001x20x5, .f32⟩ : BufTy).Contents (Elt F)),
    StableHlo.unary main_v642 main_v646 (broadcastInDim S300000x1 ![0] bcast_S300000_S300000x1_0 : (⟨S300000, .i1⟩ : BufTy).Contents (Elt F) → (⟨S300000x1, .i1⟩ : BufTy).Contents (Elt F)),
    StableHlo.nullary main_cst_237 (constant S_ .f32 0x00000000#32) ]
theorem pc14_8_sub : (pc14_8 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub ..⟩
theorem pc14_8_fresh : (pc14_8 : List (HloOp τ sig (Elt F))).Forall fun op => op.fresh = ∅ :=
  ⟨rfl, rfl, rfl, rfl⟩
theorem pc14_8_nw : (pc14_8 : List (HloOp τ sig (Elt F))).Forall fun op => (Proc.devRef .tc main_arg0 : DevRef τ sig) ∉ op.writes :=
  ⟨nullary_nw _ _ (by decide), unary_nw _ _ _ (by decide), unary_nw _ _ _ (by decide), nullary_nw _ _ (by decide)⟩

/-- 4 operations of @where_1 (main_call70), window 14, tlOps3: %647 … %647. -/
abbrev pc14_9 : List (HloOp τ sig (Elt F)) :=
  [ StableHlo.TRef.unary (.of main_cst_237 : StableHlo.TRef sig ⟨S_, .f32⟩) (.of main_call70_v0 : StableHlo.TRef sig ⟨S_, .f32⟩) id,
    StableHlo.TRef.unary (.of main_v646 : StableHlo.TRef sig ⟨S300000x1, .i1⟩) (.of main_call70_v1 : StableHlo.TRef sig ⟨S300000x5, .i1⟩) (broadcastInDim S300000x5 ![0, 1] bcast_S300000x1_S300000x5_0_1),
    StableHlo.TRef.unary (.of main_call70_v0 : StableHlo.TRef sig ⟨S_, .f32⟩) (.of main_call70_v2 : StableHlo.TRef sig ⟨S300000x5, .f32⟩) (broadcastInDim S300000x5 ![] bcast_S_S300000x5),
    StableHlo.TRef.ternary (.of main_call70_v1 : StableHlo.TRef sig ⟨S300000x5, .i1⟩) (.of main_v541 : StableHlo.TRef sig ⟨S300000x5, .f32⟩) (.of main_call70_v2 : StableHlo.TRef sig ⟨S300000x5, .f32⟩) (.of main_v647 : StableHlo.TRef sig ⟨S300000x5, .f32⟩) select ]
theorem pc14_9_sub : (pc14_9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem pc14_9_fresh : (pc14_9 : List (HloOp τ sig (Elt F))).Forall fun op => op.fresh = ∅ :=
  ⟨rfl, rfl, rfl, rfl⟩
theorem pc14_9_nw : (pc14_9 : List (HloOp τ sig (Elt F))).Forall fun op => (Proc.devRef .tc main_arg0 : DevRef τ sig) ∉ op.writes :=
  ⟨unary_nw _ _ _ (by decide), unary_nw _ _ _ (by decide), unary_nw _ _ _ (by decide), ternary_nw _ _ _ _ _ (by decide)⟩

/-- 12 operations of @main, window 14, tlOps3: %c_238 … %655. -/
abbrev pc14_10 : List (HloOp τ sig (Elt F)) :=
  [ StableHlo.nullary main_c_238 (constantI S_ 32 0#32),
    StableHlo.unary main_c_238 main_v648 (broadcastInDim S300000 ![] bcast_S_S300000 : (⟨S_, .i32⟩ : BufTy).Contents (Elt F) → (⟨S300000, .i32⟩ : BufTy).Contents (Elt F)),
    StableHlo.binary main_v643 main_v648 main_v649 (cmpi .slt : (⟨S300000, .i32⟩ : BufTy).Contents (Elt F) → (⟨S300000, .i32⟩ : BufTy).Contents (Elt F) → (⟨S300000, .i1⟩ : BufTy).Contents (Elt F)),
    StableHlo.nullary main_c_239 (constantI S_ 32 30001#32),
    StableHlo.unary main_c_239 main_v650 (broadcastInDim S300000 ![] bcast_S_S300000 : (⟨S_, .i32⟩ : BufTy).Contents (Elt F) → (⟨S300000, .i32⟩ : BufTy).Contents (Elt F)),
    StableHlo.binary main_v643 main_v650 main_v651 (addi : (⟨S300000, .i32⟩ : BufTy).Contents (Elt F) → (⟨S300000, .i32⟩ : BufTy).Contents (Elt F) → (⟨S300000, .i32⟩ : BufTy).Contents (Elt F)),
    StableHlo.ternary main_v649 main_v651 main_v643 main_v652 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_240 (constantI S_ 32 0#32),
    StableHlo.unary main_c_240 main_v653 (broadcastInDim S300000 ![] bcast_S_S300000 : (⟨S_, .i32⟩ : BufTy).Contents (Elt F) → (⟨S300000, .i32⟩ : BufTy).Contents (Elt F)),
    StableHlo.binary main_v644 main_v653 main_v654 (cmpi .slt : (⟨S300000, .i32⟩ : BufTy).Contents (Elt F) → (⟨S300000, .i32⟩ : BufTy).Contents (Elt F) → (⟨S300000, .i1⟩ : BufTy).Contents (Elt F)),
    StableHlo.nullary main_c_241 (constantI S_ 32 20#32),
    StableHlo.unary main_c_241 main_v655 (broadcastInDim S300000 ![] bcast_S_S300000 : (⟨S_, .i32⟩ : BufTy).Contents (Elt F) → (⟨S300000, .i32⟩ : BufTy).Contents (Elt F)) ]
theorem pc14_10_sub : (pc14_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub ..⟩
theorem pc14_10_fresh : (pc14_10 : List (HloOp τ sig (Elt F))).Forall fun op => op.fresh = ∅ :=
  ⟨rfl, rfl, rfl, rfl, rfl, rfl, rfl, rfl, rfl, rfl, rfl, rfl⟩
theorem pc14_10_nw : (pc14_10 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), nullary_nw _ _ (by decide), unary_nw _ _ _ (by decide), binary_nw _ _ _ _ (by decide), nullary_nw _ _ (by decide), unary_nw _ _ _ (by decide)⟩

/-- 20 operations of @main, window 15, tlOps3: %656 … %c_245. -/
abbrev pc15_0 : List (HloOp τ sig (Elt F)) :=
  [ StableHlo.binary main_v644 main_v655 main_v656 (addi : (⟨S300000, .i32⟩ : BufTy).Contents (Elt F) → (⟨S300000, .i32⟩ : BufTy).Contents (Elt F) → (⟨S300000, .i32⟩ : BufTy).Contents (Elt F)),
    StableHlo.ternary main_v654 main_v656 main_v644 main_v657 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v652 main_v658 (broadcastInDim S300000x1 ![0] bcast_S300000_S300000x1_0 : (⟨S300000, .i32⟩ : BufTy).Contents (Elt F) → (⟨S300000x1, .i32⟩ : BufTy).Contents (Elt F)),
    StableHlo.unary main_v657 main_v659 (broadcastInDim S300000x1 ![0] bcast_S300000_S300000x1_0 : (⟨S300000, .i32⟩ : BufTy).Contents (Elt F) → (⟨S300000x1, .i32⟩ : BufTy).Contents (Elt F)),
    StableHlo.binary main_v658 main_v659 main_v660 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v645 main_v660 main_v647 main_v661 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v661 main_v662 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v642 main_v663 ((extui 32 · natLt_1_32) : (⟨S300000, .i1⟩ : BufTy).Contents (Elt F) → (⟨S300000, .i32⟩ : BufTy).Contents (Elt F)),
    StableHlo.nullary main_c_242 (constantI S_ 32 0#32),
    StableHlo.unary main_c_242 main_v664 (broadcastInDim S30001 ![] bcast_S_S30001 : (⟨S_, .i32⟩ : BufTy).Contents (Elt F) → (⟨S30001, .i32⟩ : BufTy).Contents (Elt F)),
    StableHlo.unary main_v643 main_v665 (broadcastInDim S300000x1 ![0] bcast_S300000_S300000x1_0 : (⟨S300000, .i32⟩ : BufTy).Contents (Elt F) → (⟨S300000x1, .i32⟩ : BufTy).Contents (Elt F)),
    StableHlo.ternary main_v664 main_v665 main_v663 main_v666 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v666 main_v667 ((extractStridedSlice S30000 ![0] · slices_S30001_S30000_0) : (⟨S30001, .i32⟩ : BufTy).Contents (Elt F) → (⟨S30000, .i32⟩ : BufTy).Contents (Elt F)),
    StableHlo.nullary main_c_243 (constantI S_ 32 4294967295#32),
    StableHlo.unary main_c_243 main_v668 (broadcastInDim S30001 ![] bcast_S_S30001 : (⟨S_, .i32⟩ : BufTy).Contents (Elt F) → (⟨S30001, .i32⟩ : BufTy).Contents (Elt F)),
    StableHlo.nullary main_c_244 (constantI S_ 32 30000#32),
    StableHlo.unary main_c_244 main_v669 (broadcastInDim S300000 ![] bcast_S_S300000 : (⟨S_, .i32⟩ : BufTy).Contents (Elt F) → (⟨S300000, .i32⟩ : BufTy).Contents (Elt F)),
    StableHlo.binary main_v592 main_v669 main_v670 (cmpi .slt : (⟨S300000, .i32⟩ : BufTy).Contents (Elt F) → (⟨S300000, .i32⟩ : BufTy).Contents (Elt F) → (⟨S300000, .i1⟩ : BufTy).Contents (Elt F)),
    StableHlo.binary main_v588 main_v670 main_v671 (andi : (⟨S300000, .i1⟩ : BufTy).Contents (Elt F) → (⟨S300000, .i1⟩ : BufTy).Contents (Elt F) → (⟨S300000, .i1⟩ : BufTy).Contents (Elt F)),
    StableHlo.nullary main_c_245 (constantI S_ 32 30000#32) ]
theorem pc15_0_sub : (pc15_0 : List (HloOp τ sig (Elt F))).Forall fun op => op.bufs ⊆ StableHlo.tcRefs τ sig :=
  ⟨StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub ..⟩
theorem pc15_0_fresh : (pc15_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem pc15_0_nw : (pc15_0 : List (HloOp τ sig (Elt F))).Forall fun op => (Proc.devRef .tc main_arg0 : DevRef τ sig) ∉ op.writes :=
  ⟨binary_nw _ _ _ _ (by decide), ternary_nw _ _ _ _ _ (by decide), unary_nw _ _ _ (by decide), unary_nw _ _ _ (by decide), binary_nw _ _ _ _ (by decide), ternary_nw _ _ _ _ _ (by decide), unary_nw _ _ _ (by decide), unary_nw _ _ _ (by decide), nullary_nw _ _ (by decide), unary_nw _ _ _ (by decide), unary_nw _ _ _ (by decide), ternary_nw _ _ _ _ _ (by decide), unary_nw _ _ _ (by decide), nullary_nw _ _ (by decide), unary_nw _ _ _ (by decide), nullary_nw _ _ (by decide), unary_nw _ _ _ (by decide), binary_nw _ _ _ _ (by decide), binary_nw _ _ _ _ (by decide), nullary_nw _ _ (by decide)⟩

/-- 3 operations of @where (main_call71), window 15, tlOps3: %672 … %672. -/
abbrev pc15_1 : List (HloOp τ sig (Elt F)) :=
  [ StableHlo.TRef.unary (.of main_c_245 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S300000, .i32⟩) (broadcastInDim S300000 ![] bcast_S_S300000),
    StableHlo.TRef.ternary (.of main_v671 : StableHlo.TRef sig ⟨S300000, .i1⟩) (.of main_v592 : StableHlo.TRef sig ⟨S300000, .i32⟩) (.of main_call71_v1 : StableHlo.TRef sig ⟨S300000, .i32⟩) (.of main_v672 : StableHlo.TRef sig ⟨S300000, .i32⟩) select ]
theorem pc15_1_sub : (pc15_1 : List (HloOp τ sig (Elt F))).Forall fun op => op.bufs ⊆ StableHlo.tcRefs τ sig :=
  ⟨StableHlo.unary_bufs_sub .., StableHlo.unary_bufs_sub .., StableHlo.ternary_bufs_sub ..⟩
theorem pc15_1_fresh : (pc15_1 : List (HloOp τ sig (Elt F))).Forall fun op => op.fresh = ∅ :=
  ⟨rfl, rfl, rfl⟩
theorem pc15_1_nw : (pc15_1 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 5 operations of @main, window 15, tlOps3: %c_246 … %c_247. -/
abbrev pc15_2 : List (HloOp τ sig (Elt F)) :=
  [ StableHlo.nullary main_c_246 (constantI S_ 32 30000#32),
    StableHlo.unary main_c_246 main_v673 (broadcastInDim S300000 ![] bcast_S_S300000 : (⟨S_, .i32⟩ : BufTy).Contents (Elt F) → (⟨S300000, .i32⟩ : BufTy).Contents (Elt F)),
    StableHlo.binary main_v592 main_v673 main_v674 (cmpi .slt : (⟨S300000, .i32⟩ : BufTy).Contents (Elt F) → (⟨S300000, .i32⟩ : BufTy).Contents (Elt F) → (⟨S300000, .i1⟩ : BufTy).Contents (Elt F)),
    StableHlo.binary main_v588 main_v674 main_v675 (andi : (⟨S300000, .i1⟩ : BufTy).Contents (Elt F) → (⟨S300000, .i1⟩ : BufTy).Contents (Elt F) → (⟨S300000, .i1⟩ : BufTy).Contents (Elt F)),
    StableHlo.nullary main_c_247 (constantI S_ 32 4294967295#32) ]
theorem pc15_2_sub : (pc15_2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub ..⟩
theorem pc15_2_fresh : (pc15_2 : List (HloOp τ sig (Elt F))).Forall fun op => op.fresh = ∅ :=
  ⟨rfl, rfl, rfl, rfl, rfl⟩
theorem pc15_2_nw : (pc15_2 : List (HloOp τ sig (Elt F))).Forall fun op => (Proc.devRef .tc main_arg0 : DevRef τ sig) ∉ op.writes :=
  ⟨nullary_nw _ _ (by decide), unary_nw _ _ _ (by decide), binary_nw _ _ _ _ (by decide), binary_nw _ _ _ _ (by decide), nullary_nw _ _ (by decide)⟩

/-- 3 operations of @where (main_call72), window 15, tlOps3: %676 … %676. -/
abbrev pc15_3 : List (HloOp τ sig (Elt F)) :=
  [ StableHlo.TRef.unary (.of main_c_247 : StableHlo.TRef sig ⟨S_, .i32⟩) (.of main_call72_v0 : StableHlo.TRef sig ⟨S_, .i32⟩) id,
    StableHlo.TRef.unary (.of main_call72_v0 : StableHlo.TRef sig ⟨S_, .i32⟩) (.of main_call72_v1 : StableHlo.TRef sig ⟨S300000, .i32⟩) (broadcastInDim S300000 ![] bcast_S_S300000),
    StableHlo.TRef.ternary (.of main_v675 : StableHlo.TRef sig ⟨S300000, .i1⟩) (.of main_v570 : StableHlo.TRef sig ⟨S300000, .i32⟩) (.of main_call72_v1 : StableHlo.TRef sig ⟨S300000, .i32⟩) (.of main_v676 : StableHlo.TRef sig ⟨S300000, .i32⟩) select ]
theorem pc15_3_sub : (pc15_3 : List (HloOp τ sig (Elt F))).Forall fun op => op.bufs ⊆ StableHlo.tcRefs τ sig :=
  ⟨StableHlo.unary_bufs_sub .., StableHlo.unary_bufs_sub .., StableHlo.ternary_bufs_sub ..⟩
theorem pc15_3_fresh : (pc15_3 : List (HloOp τ sig (Elt F))).Forall fun op => op.fresh = ∅ :=
  ⟨rfl, rfl, rfl⟩
theorem pc15_3_nw : (pc15_3 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 14 operations of @main, window 15, tlOps3: %c_248 … %c_251. -/
abbrev pc15_4 : List (HloOp τ sig (Elt F)) :=
  [ StableHlo.nullary main_c_248 (constantI S_ 32 0#32),
    StableHlo.unary main_c_248 main_v677 (broadcastInDim S300000 ![] bcast_S_S300000 : (⟨S_, .i32⟩ : BufTy).Contents (Elt F) → (⟨S300000, .i32⟩ : BufTy).Contents (Elt F)),
    StableHlo.binary main_v672 main_v677 main_v678 (cmpi .slt : (⟨S300000, .i32⟩ : BufTy).Contents (Elt F) → (⟨S300000, .i32⟩ : BufTy).Contents (Elt F) → (⟨S300000, .i1⟩ : BufTy).Contents (Elt F)),
    StableHlo.nullary main_c_249 (constantI S_ 32 30001#32),
    StableHlo.unary main_c_249 main_v679 (broadcastInDim S300000 ![] bcast_S_S300000 : (⟨S_, .i32⟩ : BufTy).Contents (Elt F) → (⟨S300000, .i32⟩ : BufTy).Contents (Elt F)),
    StableHlo.binary main_v672 main_v679 main_v680 (addi : (⟨S300000, .i32⟩ : BufTy).Contents (Elt F) → (⟨S300000, .i32⟩ : BufTy).Contents (Elt F) → (⟨S300000, .i32⟩ : BufTy).Contents (Elt F)),
    StableHlo.ternary main_v678 main_v680 main_v672 main_v681 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v681 main_v682 (broadcastInDim S300000x1 ![0] bcast_S300000_S300000x1_0 : (⟨S300000, .i32⟩ : BufTy).Contents (Elt F) → (⟨S300000x1, .i32⟩ : BufTy).Contents (Elt F)),
    StableHlo.ternary main_v668 main_v682 main_v676 main_v683 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v683 main_v684 ((extractStridedSlice S30000 ![0] · slices_S30001_S30000_0) : (⟨S30001, .i32⟩ : BufTy).Contents (Elt F) → (⟨S30000, .i32⟩ : BufTy).Contents (Elt F)),
    StableHlo.nullary main_c_250 (constantI S_ 32 0#32),
    StableHlo.unary main_c_250 main_v685 (broadcastInDim S30000 ![] bcast_S_S30000 : (⟨S_, .i32⟩ : BufTy).Contents (Elt F) → (⟨S30000, .i32⟩ : BufTy).Contents (Elt F)),
    StableHlo.binary main_v684 main_v685 main_v686 (cmpi .sge : (⟨S30000, .i32⟩ : BufTy).Contents (Elt F) → (⟨S30000, .i32⟩ : BufTy).Contents (Elt F) → (⟨S30000, .i1⟩ : BufTy).Contents (Elt F)),
    StableHlo.nullary main_c_251 (constantI S_ 32 262144#32) ]
theorem pc15_4_sub : (pc15_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub ..⟩
theorem pc15_4_fresh : (pc15_4 : List (HloOp τ sig (Elt F))).Forall fun op => op.fresh = ∅ :=
  ⟨rfl, rfl, rfl, rfl, rfl, rfl, rfl, rfl, rfl, rfl, rfl, rfl, rfl, rfl⟩
theorem pc15_4_nw : (pc15_4 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide), unary_nw _ _ _ (by decide), binary_nw _ _ _ _ (by decide), ternary_nw _ _ _ _ _ (by decide), unary_nw _ _ _ (by decide), ternary_nw _ _ _ _ _ (by decide), unary_nw _ _ _ (by decide), nullary_nw _ _ (by decide), unary_nw _ _ _ (by decide), binary_nw _ _ _ _ (by decide), nullary_nw _ _ (by decide)⟩

/-- 17 operations of @floor_divide (main_call73), window 15, tlOps3: %687 … %687. -/
abbrev pc15_5 : List (HloOp τ sig (Elt F)) :=
  [ StableHlo.TRef.unary (.of main_c_251 : StableHlo.TRef sig ⟨S_, .i32⟩) (.of main_call73_v0 : StableHlo.TRef sig ⟨S_, .i32⟩) id,
    StableHlo.TRef.unary (.of main_call73_v0 : StableHlo.TRef sig ⟨S_, .i32⟩) (.of main_call73_v1 : StableHlo.TRef sig ⟨S30000, .i32⟩) (broadcastInDim S30000 ![] bcast_S_S30000),
    StableHlo.TRef.binary (.of main_v684 : StableHlo.TRef sig ⟨S30000, .i32⟩) (.of main_call73_v1 : StableHlo.TRef sig ⟨S30000, .i32⟩) (.of main_call73_v2 : StableHlo.TRef sig ⟨S30000, .i32⟩) Host.divsi,
    StableHlo.TRef.unary (.of main_v684 : StableHlo.TRef sig ⟨S30000, .i32⟩) (.of main_call73_v3 : StableHlo.TRef sig ⟨S30000, .i32⟩) signi,
    StableHlo.TRef.unary (.of main_call73_v0 : StableHlo.TRef sig ⟨S_, .i32⟩) (.of main_call73_v4 : StableHlo.TRef sig ⟨S_, .i32⟩) signi,
    StableHlo.TRef.unary (.of main_call73_v4 : StableHlo.TRef sig ⟨S_, .i32⟩) (.of main_call73_v5 : StableHlo.TRef sig ⟨S30000, .i32⟩) (broadcastInDim S30000 ![] bcast_S_S30000),
    StableHlo.TRef.binary (.of main_call73_v3 : StableHlo.TRef sig ⟨S30000, .i32⟩) (.of main_call73_v5 : StableHlo.TRef sig ⟨S30000, .i32⟩) (.of main_call73_v6 : StableHlo.TRef sig ⟨S30000, .i1⟩) (cmpi .ne),
    StableHlo.TRef.unary (.of main_call73_v0 : StableHlo.TRef sig ⟨S_, .i32⟩) (.of main_call73_v7 : StableHlo.TRef sig ⟨S30000, .i32⟩) (broadcastInDim S30000 ![] bcast_S_S30000),
    StableHlo.TRef.binary (.of main_v684 : StableHlo.TRef sig ⟨S30000, .i32⟩) (.of main_call73_v7 : StableHlo.TRef sig ⟨S30000, .i32⟩) (.of main_call73_v8 : StableHlo.TRef sig ⟨S30000, .i32⟩) Host.remsi,
    StableHlo.TRef.nullary (.of main_call73_c : StableHlo.TRef sig ⟨S_, .i32⟩) (constantI S_ 32 0#32),
    StableHlo.TRef.unary (.of main_call73_c : StableHlo.TRef sig ⟨S_, .i32⟩) (.of main_call73_v9 : StableHlo.TRef sig ⟨S30000, .i32⟩) (broadcastInDim S30000 ![] bcast_S_S30000),
    StableHlo.TRef.binary (.of main_call73_v8 : StableHlo.TRef sig ⟨S30000, .i32⟩) (.of main_call73_v9 : StableHlo.TRef sig ⟨S30000, .i32⟩) (.of main_call73_v10 : StableHlo.TRef sig ⟨S30000, .i1⟩) (cmpi .ne),
    StableHlo.TRef.binary (.of main_call73_v6 : StableHlo.TRef sig ⟨S30000, .i1⟩) (.of main_call73_v10 : StableHlo.TRef sig ⟨S30000, .i1⟩) (.of main_call73_v11 : StableHlo.TRef sig ⟨S30000, .i1⟩) andi,
    StableHlo.TRef.nullary (.of main_call73_c_0 : StableHlo.TRef sig ⟨S_, .i32⟩) (constantI S_ 32 1#32),
    StableHlo.TRef.unary (.of main_call73_c_0 : StableHlo.TRef sig ⟨S_, .i32⟩) (.of main_call73_v12 : StableHlo.TRef sig ⟨S30000, .i32⟩) (broadcastInDim S30000 ![] bcast_S_S30000),
    StableHlo.TRef.binary (.of main_call73_v2 : StableHlo.TRef sig ⟨S30000, .i32⟩) (.of main_call73_v12 : StableHlo.TRef sig ⟨S30000, .i32⟩) (.of main_call73_v13 : StableHlo.TRef sig ⟨S30000, .i32⟩) subi,
    StableHlo.TRef.ternary (.of main_call73_v11 : StableHlo.TRef sig ⟨S30000, .i1⟩) (.of main_call73_v13 : StableHlo.TRef sig ⟨S30000, .i32⟩) (.of main_call73_v2 : StableHlo.TRef sig ⟨S30000, .i32⟩) (.of main_v687 : StableHlo.TRef sig ⟨S30000, .i32⟩) select ]
theorem pc15_5_sub : (pc15_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc15_5_fresh : (pc15_5 : List (HloOp τ sig (Elt F))).Forall fun op => op.fresh = ∅ :=
  ⟨rfl, rfl, rfl, rfl, rfl, rfl, rfl, rfl, rfl, rfl, rfl, rfl, rfl, rfl, rfl, rfl, rfl⟩
theorem pc15_5_nw : (pc15_5 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 15, tlOps3: %c_252 … %c_252. -/
abbrev pc15_6 : List (HloOp τ sig (Elt F)) :=
  [ StableHlo.nullary main_c_252 (constantI S_ 32 4294967295#32) ]
theorem pc15_6_sub : (pc15_6 : List (HloOp τ sig (Elt F))).Forall fun op => op.bufs ⊆ StableHlo.tcRefs τ sig :=
  StableHlo.nullary_bufs_sub ..
theorem pc15_6_fresh : (pc15_6 : List (HloOp τ sig (Elt F))).Forall fun op => op.fresh = ∅ :=
  rfl
theorem pc15_6_nw : (pc15_6 : List (HloOp τ sig (Elt F))).Forall fun op => (Proc.devRef .tc main_arg0 : DevRef τ sig) ∉ op.writes :=
  nullary_nw _ _ (by decide)

/-- 3 operations of @where_3 (main_call74), window 15, tlOps3: %688 … %688. -/
abbrev pc15_7 : List (HloOp τ sig (Elt F)) :=
  [ StableHlo.TRef.unary (.of main_c_252 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S30000, .i32⟩) (broadcastInDim S30000 ![] bcast_S_S30000),
    StableHlo.TRef.ternary (.of main_v686 : StableHlo.TRef sig ⟨S30000, .i1⟩) (.of main_v687 : StableHlo.TRef sig ⟨S30000, .i32⟩) (.of main_call74_v1 : StableHlo.TRef sig ⟨S30000, .i32⟩) (.of main_v688 : StableHlo.TRef sig ⟨S30000, .i32⟩) select ]
theorem pc15_7_sub : (pc15_7 : List (HloOp τ sig (Elt F))).Forall fun op => op.bufs ⊆ StableHlo.tcRefs τ sig :=
  ⟨StableHlo.unary_bufs_sub .., StableHlo.unary_bufs_sub .., StableHlo.ternary_bufs_sub ..⟩
theorem pc15_7_fresh : (pc15_7 : List (HloOp τ sig (Elt F))).Forall fun op => op.fresh = ∅ :=
  ⟨rfl, rfl, rfl⟩
theorem pc15_7_nw : (pc15_7 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 15, tlOps3: %c_253 … %c_254. -/
abbrev pc15_8 : List (HloOp τ sig (Elt F)) :=
  [ StableHlo.nullary main_c_253 (constantI S_ 32 0#32),
    StableHlo.unary main_c_253 main_v689 (broadcastInDim S30000 ![] bcast_S_S30000 : (⟨S_, .i32⟩ : BufTy).Contents (Elt F) → (⟨S30000, .i32⟩ : BufTy).Contents (Elt F)),
    StableHlo.binary main_v684 main_v689 main_v690 (cmpi .sge : (⟨S30000, .i32⟩ : BufTy).Contents (Elt F) → (⟨S30000, .i32⟩ : BufTy).Contents (Elt F) → (⟨S30000, .i1⟩ : BufTy).Contents (Elt F)),
    StableHlo.nullary main_c_254 (constantI S_ 32 512#32) ]
theorem pc15_8_sub : (pc15_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc15_8_fresh : (pc15_8 : List (HloOp τ sig (Elt F))).Forall fun op => op.fresh = ∅ :=
  ⟨rfl, rfl, rfl, rfl⟩
theorem pc15_8_nw : (pc15_8 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 17 operations of @floor_divide (main_call75), window 15, tlOps3: %691 … %691. -/
abbrev pc15_9 : List (HloOp τ sig (Elt F)) :=
  [ StableHlo.TRef.unary (.of main_c_254 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S30000, .i32⟩) (broadcastInDim S30000 ![] bcast_S_S30000),
    StableHlo.TRef.binary (.of main_v684 : StableHlo.TRef sig ⟨S30000, .i32⟩) (.of main_call75_v1 : StableHlo.TRef sig ⟨S30000, .i32⟩) (.of main_call75_v2 : StableHlo.TRef sig ⟨S30000, .i32⟩) Host.divsi,
    StableHlo.TRef.unary (.of main_v684 : StableHlo.TRef sig ⟨S30000, .i32⟩) (.of main_call75_v3 : StableHlo.TRef sig ⟨S30000, .i32⟩) signi,
    StableHlo.TRef.unary (.of main_call75_v0 : StableHlo.TRef sig ⟨S_, .i32⟩) (.of main_call75_v4 : StableHlo.TRef sig ⟨S_, .i32⟩) signi,
    StableHlo.TRef.unary (.of main_call75_v4 : StableHlo.TRef sig ⟨S_, .i32⟩) (.of main_call75_v5 : StableHlo.TRef sig ⟨S30000, .i32⟩) (broadcastInDim S30000 ![] bcast_S_S30000),
    StableHlo.TRef.binary (.of main_call75_v3 : StableHlo.TRef sig ⟨S30000, .i32⟩) (.of main_call75_v5 : StableHlo.TRef sig ⟨S30000, .i32⟩) (.of main_call75_v6 : StableHlo.TRef sig ⟨S30000, .i1⟩) (cmpi .ne),
    StableHlo.TRef.unary (.of main_call75_v0 : StableHlo.TRef sig ⟨S_, .i32⟩) (.of main_call75_v7 : StableHlo.TRef sig ⟨S30000, .i32⟩) (broadcastInDim S30000 ![] bcast_S_S30000),
    StableHlo.TRef.binary (.of main_v684 : StableHlo.TRef sig ⟨S30000, .i32⟩) (.of main_call75_v7 : StableHlo.TRef sig ⟨S30000, .i32⟩) (.of main_call75_v8 : StableHlo.TRef sig ⟨S30000, .i32⟩) Host.remsi,
    StableHlo.TRef.nullary (.of main_call75_c : StableHlo.TRef sig ⟨S_, .i32⟩) (constantI S_ 32 0#32),
    StableHlo.TRef.unary (.of main_call75_c : StableHlo.TRef sig ⟨S_, .i32⟩) (.of main_call75_v9 : StableHlo.TRef sig ⟨S30000, .i32⟩) (broadcastInDim S30000 ![] bcast_S_S30000),
    StableHlo.TRef.binary (.of main_call75_v8 : StableHlo.TRef sig ⟨S30000, .i32⟩) (.of main_call75_v9 : StableHlo.TRef sig ⟨S30000, .i32⟩) (.of main_call75_v10 : StableHlo.TRef sig ⟨S30000, .i1⟩) (cmpi .ne),
    StableHlo.TRef.binary (.of main_call75_v6 : StableHlo.TRef sig ⟨S30000, .i1⟩) (.of main_call75_v10 : StableHlo.TRef sig ⟨S30000, .i1⟩) (.of main_call75_v11 : StableHlo.TRef sig ⟨S30000, .i1⟩) andi,
    StableHlo.TRef.nullary (.of main_call75_c_0 : StableHlo.TRef sig ⟨S_, .i32⟩) (constantI S_ 32 1#32),
    StableHlo.TRef.unary (.of main_call75_c_0 : StableHlo.TRef sig ⟨S_, .i32⟩) (.of main_call75_v12 : StableHlo.TRef sig ⟨S30000, .i32⟩) (broadcastInDim S30000 ![] bcast_S_S30000),
    StableHlo.TRef.binary (.of main_call75_v2 : StableHlo.TRef sig ⟨S30000, .i32⟩) (.of main_call75_v12 : StableHlo.TRef sig ⟨S30000, .i32⟩) (.of main_call75_v13 : StableHlo.TRef sig ⟨S30000, .i32⟩) subi,
    StableHlo.TRef.ternary (.of main_call75_v11 : StableHlo.TRef sig ⟨S30000, .i1⟩) (.of main_call75_v13 : StableHlo.TRef sig ⟨S30000, .i32⟩) (.of main_call75_v2 : StableHlo.TRef sig ⟨S30000, .i32⟩) (.of main_v691 : StableHlo.TRef sig ⟨S30000, .i32⟩) select ]
theorem pc15_9_sub : (pc15_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pc15_9_fresh : (pc15_9 : List (HloOp τ sig (Elt F))).Forall fun op => op.fresh = ∅ :=
  ⟨rfl, rfl, rfl, rfl, rfl, rfl, rfl, rfl, rfl, rfl, rfl, rfl, rfl, rfl, rfl, rfl, rfl⟩
theorem pc15_9_nw : (pc15_9 : List (HloOp τ sig (Elt F))).Forall fun op => (Proc.devRef .tc main_arg0 : DevRef τ sig) ∉ op.writes :=
  ⟨unary_nw _ _ _ (by decide), unary_nw _ _ _ (by decide), binary_nw _ _ _ _ (by decide), unary_nw _ _ _ (by decide), unary_nw _ _ _ (by decide), unary_nw _ _ _ (by decide), binary_nw _ _ _ _ (by decide), unary_nw _ _ _ (by decide), binary_nw _ _ _ _ (by decide), nullary_nw _ _ (by decide), unary_nw _ _ _ (by decide), binary_nw _ _ _ _ (by decide), binary_nw _ _ _ _ (by decide), nullary_nw _ _ (by decide), unary_nw _ _ _ (by decide), binary_nw _ _ _ _ (by decide), ternary_nw _ _ _ _ _ (by decide)⟩

/-- 1 operations of @main, window 15, tlOps3: %c_255 … %c_255. -/
abbrev pc15_10 : List (HloOp τ sig (Elt F)) :=
  [ StableHlo.nullary main_c_255 (constantI S_ 32 512#32) ]
theorem pc15_10_sub : (pc15_10 : List (HloOp τ sig (Elt F))).Forall fun op => op.bufs ⊆ StableHlo.tcRefs τ sig :=
  StableHlo.nullary_bufs_sub ..
theorem pc15_10_fresh : (pc15_10 : List (HloOp τ sig (Elt F))).Forall fun op => op.fresh = ∅ :=
  rfl
theorem pc15_10_nw : (pc15_10 : List (HloOp τ sig (Elt F))).Forall fun op => (Proc.devRef .tc main_arg0 : DevRef τ sig) ∉ op.writes :=
  nullary_nw _ _ (by decide)

/-- 21 operations of @remainder (main_call76), window 15, tlOps3: %692 … %692. -/
abbrev pc15_11 : List (HloOp τ sig (Elt F)) :=
  [ StableHlo.TRef.unary (.of main_c_255 : StableHlo.TRef sig ⟨S_, .i32⟩) (.of main_call76_v0 : StableHlo.TRef sig ⟨S_, .i32⟩) id,
    StableHlo.TRef.nullary (.of main_call76_c : StableHlo.TRef sig ⟨S_, .i32⟩) (constantI S_ 32 0#32),
    StableHlo.TRef.binary (.of main_call76_v0 : StableHlo.TRef sig ⟨S_, .i32⟩) (.of main_call76_c : StableHlo.TRef sig ⟨S_, .i32⟩) (.of main_call76_v1 : StableHlo.TRef sig ⟨S_, .i1⟩) (cmpi .eq),
    StableHlo.TRef.nullary (.of main_call76_c_0 : StableHlo.TRef sig ⟨S_, .i32⟩) (constantI S_ 32 1#32),
    StableHlo.TRef.ternary (.of main_call76_v1 : StableHlo.TRef sig ⟨S_, .i1⟩) (.of main_call76_c_0 : StableHlo.TRef sig ⟨S_, .i32⟩) (.of main_call76_v0 : StableHlo.TRef sig ⟨S_, .i32⟩) (.of main_call76_v2 : StableHlo.TRef sig ⟨S_, .i32⟩) select,
    StableHlo.TRef.unary (.of main_call76_v2 : StableHlo.TRef sig ⟨S_, .i32⟩) (.of main_call76_v3 : StableHlo.TRef sig ⟨S30000, .i32⟩) (broadcastInDim S30000 ![] bcast_S_S30000),
    StableHlo.TRef.binary (.of main_v691 : StableHlo.TRef sig ⟨S30000, .i32⟩) (.of main_call76_v3 : StableHlo.TRef sig ⟨S30000, .i32⟩) (.of main_call76_v4 : StableHlo.TRef sig ⟨S30000, .i32⟩) Host.remsi,
    StableHlo.TRef.nullary (.of main_call76_c_1 : StableHlo.TRef sig ⟨S_, .i32⟩) (constantI S_ 32 0#32),
    StableHlo.TRef.unary (.of main_call76_c_1 : StableHlo.TRef sig ⟨S_, .i32⟩) (.of main_call76_v5 : StableHlo.TRef sig ⟨S30000, .i32⟩) (broadcastInDim S30000 ![] bcast_S_S30000),
    StableHlo.TRef.binary (.of main_call76_v4 : StableHlo.TRef sig ⟨S30000, .i32⟩) (.of main_call76_v5 : StableHlo.TRef sig ⟨S30000, .i32⟩) (.of main_call76_v6 : StableHlo.TRef sig ⟨S30000, .i1⟩) (cmpi .ne),
    StableHlo.TRef.nullary (.of main_call76_c_2 : StableHlo.TRef sig ⟨S_, .i32⟩) (constantI S_ 32 0#32),
    StableHlo.TRef.unary (.of main_call76_c_2 : StableHlo.TRef sig ⟨S_, .i32⟩) (.of main_call76_v7 : StableHlo.TRef sig ⟨S30000, .i32⟩) (broadcastInDim S30000 ![] bcast_S_S30000),
    StableHlo.TRef.binary (.of main_call76_v4 : StableHlo.TRef sig ⟨S30000, .i32⟩) (.of main_call76_v7 : StableHlo.TRef sig ⟨S30000, .i32⟩) (.of main_call76_v8 : StableHlo.TRef sig ⟨S30000, .i1⟩) (cmpi .slt),
    StableHlo.TRef.nullary (.of main_call76_c_3 : StableHlo.TRef sig ⟨S_, .i32⟩) (constantI S_ 32 0#32),
    StableHlo.TRef.binary (.of main_call76_v2 : StableHlo.TRef sig ⟨S_, .i32⟩) (.of main_call76_c_3 : StableHlo.TRef sig ⟨S_, .i32⟩) (.of main_call76_v9 : StableHlo.TRef sig ⟨S_, .i1⟩) (cmpi .slt),
    StableHlo.TRef.unary (.of main_call76_v9 : StableHlo.TRef sig ⟨S_, .i1⟩) (.of main_call76_v10 : StableHlo.TRef sig ⟨S30000, .i1⟩) (broadcastInDim S30000 ![] bcast_S_S30000),
    StableHlo.TRef.binary (.of main_call76_v8 : StableHlo.TRef sig ⟨S30000, .i1⟩) (.of main_call76_v10 : StableHlo.TRef sig ⟨S30000, .i1⟩) (.of main_call76_v11 : StableHlo.TRef sig ⟨S30000, .i1⟩) (cmpi .ne),
    StableHlo.TRef.binary (.of main_call76_v11 : StableHlo.TRef sig ⟨S30000, .i1⟩) (.of main_call76_v6 : StableHlo.TRef sig ⟨S30000, .i1⟩) (.of main_call76_v12 : StableHlo.TRef sig ⟨S30000, .i1⟩) andi,
    StableHlo.TRef.unary (.of main_call76_v2 : StableHlo.TRef sig ⟨S_, .i32⟩) (.of main_call76_v13 : StableHlo.TRef sig ⟨S30000, .i32⟩) (broadcastInDim S30000 ![] bcast_S_S30000),
    StableHlo.TRef.binary (.of main_call76_v4 : StableHlo.TRef sig ⟨S30000, .i32⟩) (.of main_call76_v13 : StableHlo.TRef sig ⟨S30000, .i32⟩) (.of main_call76_v14 : StableHlo.TRef sig ⟨S30000, .i32⟩) addi,
    StableHlo.TRef.ternary (.of main_call76_v12 : StableHlo.TRef sig ⟨S30000, .i1⟩) (.of main_call76_v14 : StableHlo.TRef sig ⟨S30000, .i32⟩) (.of main_call76_v4 : StableHlo.TRef sig ⟨S30000, .i32⟩) (.of main_v692 : StableHlo.TRef sig ⟨S30000, .i32⟩) select ]
theorem pc15_11_sub : (pc15_11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc15_11_fresh : (pc15_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc15_11_nw : (pc15_11 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 15, tlOps3: %c_256 … %c_256. -/
abbrev pc15_12 : List (HloOp τ sig (Elt F)) :=
  [ StableHlo.nullary main_c_256 (constantI S_ 32 4294967295#32) ]
theorem pc15_12_sub : (pc15_12 : List (HloOp τ sig (Elt F))).Forall fun op => op.bufs ⊆ StableHlo.tcRefs τ sig :=
  StableHlo.nullary_bufs_sub ..
theorem pc15_12_fresh : (pc15_12 : List (HloOp τ sig (Elt F))).Forall fun op => op.fresh = ∅ :=
  rfl
theorem pc15_12_nw : (pc15_12 : List (HloOp τ sig (Elt F))).Forall fun op => (Proc.devRef .tc main_arg0 : DevRef τ sig) ∉ op.writes :=
  nullary_nw _ _ (by decide)

/-- 3 operations of @where_3 (main_call77), window 15, tlOps3: %693 … %693. -/
abbrev pc15_13 : List (HloOp τ sig (Elt F)) :=
  [ StableHlo.TRef.unary (.of main_c_256 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S30000, .i32⟩) (broadcastInDim S30000 ![] bcast_S_S30000),
    StableHlo.TRef.ternary (.of main_v690 : StableHlo.TRef sig ⟨S30000, .i1⟩) (.of main_v692 : StableHlo.TRef sig ⟨S30000, .i32⟩) (.of main_call77_v1 : StableHlo.TRef sig ⟨S30000, .i32⟩) (.of main_v693 : StableHlo.TRef sig ⟨S30000, .i32⟩) select ]
theorem pc15_13_sub : (pc15_13 : List (HloOp τ sig (Elt F))).Forall fun op => op.bufs ⊆ StableHlo.tcRefs τ sig :=
  ⟨StableHlo.unary_bufs_sub .., StableHlo.unary_bufs_sub .., StableHlo.ternary_bufs_sub ..⟩
theorem pc15_13_fresh : (pc15_13 : List (HloOp τ sig (Elt F))).Forall fun op => op.fresh = ∅ :=
  ⟨rfl, rfl, rfl⟩
theorem pc15_13_nw : (pc15_13 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 4 operations of @main, window 15, tlOps3: %c_257 … %c_258. -/
abbrev pc15_14 : List (HloOp τ sig (Elt F)) :=
  [ StableHlo.nullary main_c_257 (constantI S_ 32 0#32),
    StableHlo.unary main_c_257 main_v694 (broadcastInDim S30000 ![] bcast_S_S30000 : (⟨S_, .i32⟩ : BufTy).Contents (Elt F) → (⟨S30000, .i32⟩ : BufTy).Contents (Elt F)),
    StableHlo.binary main_v684 main_v694 main_v695 (cmpi .sge : (⟨S30000, .i32⟩ : BufTy).Contents (Elt F) → (⟨S30000, .i32⟩ : BufTy).Contents (Elt F) → (⟨S30000, .i1⟩ : BufTy).Contents (Elt F)),
    StableHlo.nullary main_c_258 (constantI S_ 32 512#32) ]
theorem pc15_14_sub : (pc15_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem pc15_14_fresh : (pc15_14 : List (HloOp τ sig (Elt F))).Forall fun op => op.fresh = ∅ :=
  ⟨rfl, rfl, rfl, rfl⟩
theorem pc15_14_nw : (pc15_14 : List (HloOp τ sig (Elt F))).Forall fun op => (Proc.devRef .tc main_arg0 : DevRef τ sig) ∉ op.writes :=
  ⟨nullary_nw _ _ (by decide), unary_nw _ _ _ (by decide), binary_nw _ _ _ _ (by decide), nullary_nw _ _ (by decide)⟩

/-- 21 operations of @remainder (main_call78), window 15, tlOps3: %696 … %696. -/
abbrev pc15_15 : List (HloOp τ sig (Elt F)) :=
  [ StableHlo.TRef.unary (.of main_c_258 : StableHlo.TRef sig ⟨S_, .i32⟩) (.of main_call78_v0 : StableHlo.TRef sig ⟨S_, .i32⟩) id,
    StableHlo.TRef.nullary (.of main_call78_c : StableHlo.TRef sig ⟨S_, .i32⟩) (constantI S_ 32 0#32),
    StableHlo.TRef.binary (.of main_call78_v0 : StableHlo.TRef sig ⟨S_, .i32⟩) (.of main_call78_c : StableHlo.TRef sig ⟨S_, .i32⟩) (.of main_call78_v1 : StableHlo.TRef sig ⟨S_, .i1⟩) (cmpi .eq),
    StableHlo.TRef.nullary (.of main_call78_c_0 : StableHlo.TRef sig ⟨S_, .i32⟩) (constantI S_ 32 1#32),
    StableHlo.TRef.ternary (.of main_call78_v1 : StableHlo.TRef sig ⟨S_, .i1⟩) (.of main_call78_c_0 : StableHlo.TRef sig ⟨S_, .i32⟩) (.of main_call78_v0 : StableHlo.TRef sig ⟨S_, .i32⟩) (.of main_call78_v2 : StableHlo.TRef sig ⟨S_, .i32⟩) select,
    StableHlo.TRef.unary (.of main_call78_v2 : StableHlo.TRef sig ⟨S_, .i32⟩) (.of main_call78_v3 : StableHlo.TRef sig ⟨S30000, .i32⟩) (broadcastInDim S30000 ![] bcast_S_S30000),
    StableHlo.TRef.binary (.of main_v684 : StableHlo.TRef sig ⟨S30000, .i32⟩) (.of main_call78_v3 : StableHlo.TRef sig ⟨S30000, .i32⟩) (.of main_call78_v4 : StableHlo.TRef sig ⟨S30000, .i32⟩) Host.remsi,
    StableHlo.TRef.nullary (.of main_call78_c_1 : StableHlo.TRef sig ⟨S_, .i32⟩) (constantI S_ 32 0#32),
    StableHlo.TRef.unary (.of main_call78_c_1 : StableHlo.TRef sig ⟨S_, .i32⟩) (.of main_call78_v5 : StableHlo.TRef sig ⟨S30000, .i32⟩) (broadcastInDim S30000 ![] bcast_S_S30000),
    StableHlo.TRef.binary (.of main_call78_v4 : StableHlo.TRef sig ⟨S30000, .i32⟩) (.of main_call78_v5 : StableHlo.TRef sig ⟨S30000, .i32⟩) (.of main_call78_v6 : StableHlo.TRef sig ⟨S30000, .i1⟩) (cmpi .ne),
    StableHlo.TRef.nullary (.of main_call78_c_2 : StableHlo.TRef sig ⟨S_, .i32⟩) (constantI S_ 32 0#32),
    StableHlo.TRef.unary (.of main_call78_c_2 : StableHlo.TRef sig ⟨S_, .i32⟩) (.of main_call78_v7 : StableHlo.TRef sig ⟨S30000, .i32⟩) (broadcastInDim S30000 ![] bcast_S_S30000),
    StableHlo.TRef.binary (.of main_call78_v4 : StableHlo.TRef sig ⟨S30000, .i32⟩) (.of main_call78_v7 : StableHlo.TRef sig ⟨S30000, .i32⟩) (.of main_call78_v8 : StableHlo.TRef sig ⟨S30000, .i1⟩) (cmpi .slt),
    StableHlo.TRef.nullary (.of main_call78_c_3 : StableHlo.TRef sig ⟨S_, .i32⟩) (constantI S_ 32 0#32),
    StableHlo.TRef.binary (.of main_call78_v2 : StableHlo.TRef sig ⟨S_, .i32⟩) (.of main_call78_c_3 : StableHlo.TRef sig ⟨S_, .i32⟩) (.of main_call78_v9 : StableHlo.TRef sig ⟨S_, .i1⟩) (cmpi .slt),
    StableHlo.TRef.unary (.of main_call78_v9 : StableHlo.TRef sig ⟨S_, .i1⟩) (.of main_call78_v10 : StableHlo.TRef sig ⟨S30000, .i1⟩) (broadcastInDim S30000 ![] bcast_S_S30000),
    StableHlo.TRef.binary (.of main_call78_v8 : StableHlo.TRef sig ⟨S30000, .i1⟩) (.of main_call78_v10 : StableHlo.TRef sig ⟨S30000, .i1⟩) (.of main_call78_v11 : StableHlo.TRef sig ⟨S30000, .i1⟩) (cmpi .ne),
    StableHlo.TRef.binary (.of main_call78_v11 : StableHlo.TRef sig ⟨S30000, .i1⟩) (.of main_call78_v6 : StableHlo.TRef sig ⟨S30000, .i1⟩) (.of main_call78_v12 : StableHlo.TRef sig ⟨S30000, .i1⟩) andi,
    StableHlo.TRef.unary (.of main_call78_v2 : StableHlo.TRef sig ⟨S_, .i32⟩) (.of main_call78_v13 : StableHlo.TRef sig ⟨S30000, .i32⟩) (broadcastInDim S30000 ![] bcast_S_S30000),
    StableHlo.TRef.binary (.of main_call78_v4 : StableHlo.TRef sig ⟨S30000, .i32⟩) (.of main_call78_v13 : StableHlo.TRef sig ⟨S30000, .i32⟩) (.of main_call78_v14 : StableHlo.TRef sig ⟨S30000, .i32⟩) addi,
    StableHlo.TRef.ternary (.of main_call78_v12 : StableHlo.TRef sig ⟨S30000, .i1⟩) (.of main_call78_v14 : StableHlo.TRef sig ⟨S30000, .i32⟩) (.of main_call78_v4 : StableHlo.TRef sig ⟨S30000, .i32⟩) (.of main_v696 : StableHlo.TRef sig ⟨S30000, .i32⟩) select ]
theorem pc15_15_sub : (pc15_15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pc15_15_fresh : (pc15_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pc15_15_nw : (pc15_15 : List (HloOp τ sig (Elt F))).Forall fun op => (Proc.devRef .tc main_arg0 : DevRef τ sig) ∉ op.writes :=
  ⟨unary_nw _ _ _ (by decide), nullary_nw _ _ (by decide), binary_nw _ _ _ _ (by decide), nullary_nw _ _ (by decide), ternary_nw _ _ _ _ _ (by decide), unary_nw _ _ _ (by decide), binary_nw _ _ _ _ (by decide), nullary_nw _ _ (by decide), unary_nw _ _ _ (by decide), binary_nw _ _ _ _ (by decide), nullary_nw _ _ (by decide), unary_nw _ _ _ (by decide), binary_nw _ _ _ _ (by decide), nullary_nw _ _ (by decide), binary_nw _ _ _ _ (by decide), unary_nw _ _ _ (by decide), binary_nw _ _ _ _ (by decide), binary_nw _ _ _ _ (by decide), unary_nw _ _ _ (by decide), binary_nw _ _ _ _ (by decide), ternary_nw _ _ _ _ _ (by decide)⟩

/-- 1 operations of @main, window 15, tlOps3: %c_259 … %c_259. -/
abbrev pc15_16 : List (HloOp τ sig (Elt F)) :=
  [ StableHlo.nullary main_c_259 (constantI S_ 32 4294967295#32) ]
theorem pc15_16_sub : (pc15_16 : List (HloOp τ sig (Elt F))).Forall fun op => op.bufs ⊆ StableHlo.tcRefs τ sig :=
  StableHlo.nullary_bufs_sub ..
theorem pc15_16_fresh : (pc15_16 : List (HloOp τ sig (Elt F))).Forall fun op => op.fresh = ∅ :=
  rfl
theorem pc15_16_nw : (pc15_16 : List (HloOp τ sig (Elt F))).Forall fun op => (Proc.devRef .tc main_arg0 : DevRef τ sig) ∉ op.writes :=
  nullary_nw _ _ (by decide)

/-- 3 operations of @where_3 (main_call79), window 15, tlOps3: %697 … %697. -/
abbrev pc15_17 : List (HloOp τ sig (Elt F)) :=
  [ StableHlo.TRef.unary (.of main_c_259 : StableHlo.TRef sig ⟨S_, .i32⟩) (.of main_call79_v0 : StableHlo.TRef sig ⟨S_, .i32⟩) id,
    StableHlo.TRef.unary (.of main_call79_v0 : StableHlo.TRef sig ⟨S_, .i32⟩) (.of main_call79_v1 : StableHlo.TRef sig ⟨S30000, .i32⟩) (broadcastInDim S30000 ![] bcast_S_S30000),
    StableHlo.TRef.ternary (.of main_v695 : StableHlo.TRef sig ⟨S30000, .i1⟩) (.of main_v696 : StableHlo.TRef sig ⟨S30000, .i32⟩) (.of main_call79_v1 : StableHlo.TRef sig ⟨S30000, .i32⟩) (.of main_v697 : StableHlo.TRef sig ⟨S30000, .i32⟩) select ]
theorem pc15_17_sub : (pc15_17 : List (HloOp τ sig (Elt F))).Forall fun op => op.bufs ⊆ StableHlo.tcRefs τ sig :=
  ⟨StableHlo.unary_bufs_sub .., StableHlo.unary_bufs_sub .., StableHlo.ternary_bufs_sub ..⟩
theorem pc15_17_fresh : (pc15_17 : List (HloOp τ sig (Elt F))).Forall fun op => op.fresh = ∅ :=
  ⟨rfl, rfl, rfl⟩
theorem pc15_17_nw : (pc15_17 : List (HloOp τ sig (Elt F))).Forall fun op => (Proc.devRef .tc main_arg0 : DevRef τ sig) ∉ op.writes :=
  ⟨unary_nw _ _ _ (by decide), unary_nw _ _ _ (by decide), ternary_nw _ _ _ _ _ (by decide)⟩

/-- 7 operations of @main, window 16, tlOps3: %698 … %703. -/
abbrev pc16_0 : List (HloOp τ sig (Elt F)) :=
  [ StableHlo.unary main_v688 main_v698 (broadcastInDim S30000x1 ![0] bcast_S30000_S30000x1_0 : (⟨S30000, .i32⟩ : BufTy).Contents (Elt F) → (⟨S30000x1, .i32⟩ : BufTy).Contents (Elt F)),
    StableHlo.unary main_v693 main_v699 (broadcastInDim S30000x1 ![0] bcast_S30000_S30000x1_0 : (⟨S30000, .i32⟩ : BufTy).Contents (Elt F) → (⟨S30000x1, .i32⟩ : BufTy).Contents (Elt F)),
    StableHlo.unary main_v697 main_v700 (broadcastInDim S30000x1 ![0] bcast_S30000_S30000x1_0 : (⟨S30000, .i32⟩ : BufTy).Contents (Elt F) → (⟨S30000x1, .i32⟩ : BufTy).Contents (Elt F)),
    StableHlo.nary ![main_v698, main_v699, main_v700] main_v701 (fun u => concatenate S30000x3 1 [⟨S30000x1, u 0⟩, ⟨S30000x1, u 1⟩, ⟨S30000x1, u 2⟩] concatenates_S30000x1_S30000x1_S30000x1_S30000x3_d1),
    StableHlo.nullary main_c_260 (constantI S_ 32 3#32),
    StableHlo.unary main_c_260 main_v702 (broadcastInDim S30000x1 ![] bcast_S_S30000x1 : (⟨S_, .i32⟩ : BufTy).Contents (Elt F) → (⟨S30000x1, .i32⟩ : BufTy).Contents (Elt F)),
    StableHlo.binary main_v702 main_v701 main_v703 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]
theorem pc16_0_sub : (pc16_0 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.nullary_bufs_sub .., StableHlo.unary_bufs_sub .., StableHlo.binary_bufs_sub ..⟩
theorem pc16_0_fresh : (pc16_0 : List (HloOp τ sig (Elt F))).Forall fun op => op.fresh = ∅ :=
  ⟨rfl, rfl, rfl, rfl, rfl, rfl, rfl⟩
theorem pc16_0_nw : (pc16_0 : List (HloOp τ sig (Elt F))).Forall fun op => (Proc.devRef .tc main_arg0 : DevRef τ sig) ∉ op.writes :=
  ⟨unary_nw _ _ _ (by decide), unary_nw _ _ _ (by decide), unary_nw _ _ _ (by decide), nary_nw _ _ _ _ (by decide), nullary_nw _ _ (by decide), unary_nw _ _ _ (by decide), binary_nw _ _ _ _ (by decide)⟩

/-- 3 operations of @main, window 16, finOps: %704 … %706. -/
abbrev pc16_1 : List (HloOp τ sig (Elt F)) :=
  [ StableHlo.nary ![main_v134, main_v310, main_v486, main_v662] main_v704 (fun u => concatenate S120000x20x5 0 [⟨S30000x20x5, u 0⟩, ⟨S30000x20x5, u 1⟩, ⟨S30000x20x5, u 2⟩, ⟨S30000x20x5, u 3⟩] concatenates_S30000x20x5_S30000x20x5_S30000x20x5_S30000x20x5_S120000x20x5_d0),
    StableHlo.nary ![main_v139, main_v315, main_v491, main_v667] main_v705 (fun u => concatenate S120000 0 [⟨S30000, u 0⟩, ⟨S30000, u 1⟩, ⟨S30000, u 2⟩, ⟨S30000, u 3⟩] concatenates_S30000_S30000_S30000_S30000_S120000_d0),
    StableHlo.nary ![main_v175, main_v351, main_v527, main_v703] main_v706 (fun u => concatenate S120000x4 0 [⟨S30000x4, u 0⟩, ⟨S30000x4, u 1⟩, ⟨S30000x4, u 2⟩, ⟨S30000x4, u 3⟩] concatenates_S30000x4_S30000x4_S30000x4_S30000x4_S120000x4_d0) ]
theorem pc16_1_sub : (pc16_1 : List (HloOp τ sig (Elt F))).Forall fun op => op.bufs ⊆ StableHlo.tcRefs τ sig :=
  ⟨StableHlo.nary_bufs_sub .., StableHlo.nary_bufs_sub .., StableHlo.nary_bufs_sub ..⟩
theorem pc16_1_fresh : (pc16_1 : List (HloOp τ sig (Elt F))).Forall fun op => op.fresh = ∅ :=
  ⟨rfl, rfl, rfl⟩
theorem pc16_1_nw : (pc16_1 : List (HloOp τ sig (Elt F))).Forall fun op => (Proc.devRef .tc main_arg0 : DevRef τ sig) ∉ op.writes :=
  ⟨nary_nw _ _ _ _ (by decide), nary_nw _ _ _ _ (by decide), nary_nw _ _ _ _ (by decide)⟩

/-- The pieces, in order. -/
abbrev pieces : List (List (HloOp τ sig (Elt F))) :=
  [ pc0_0,
    pc0_1,
    pc0_2,
    pc0_3,
    pc1_0,
    pc1_1,
    pc1_2,
    pc1_3,
    pc1_4,
    pc1_5,
    pc1_6,
    pc1_7,
    pc1_8,
    pc1_9,
    pc2_0,
    pc2_1,
    pc2_2,
    pc2_3,
    pc2_4,
    pc2_5,
    pc2_6,
    pc2_7,
    pc2_8,
    pc2_9,
    pc3_0,
    pc3_1,
    pc3_2,
    pc3_3,
    pc3_4,
    pc3_5,
    pc3_6,
    pc3_7,
    pc3_8,
    pc3_9,
    pc3_10,
    pc3_11,
    pc3_12,
    pc3_13,
    pc3_14,
    pc3_15,
    pc3_16,
    pc3_17,
    pc3_18,
    pc4_0,
    pc4_1,
    pc4_2,
    pc5_0,
    pc5_1,
    pc5_2,
    pc5_3,
    pc5_4,
    pc5_5,
    pc5_6,
    pc5_7,
    pc5_8,
    pc5_9,
    pc5_10,
    pc6_0,
    pc6_1,
    pc6_2,
    pc6_3,
    pc6_4,
    pc6_5,
    pc6_6,
    pc6_7,
    pc6_8,
    pc6_9,
    pc7_0,
    pc7_1,
    pc7_2,
    pc7_3,
    pc7_4,
    pc7_5,
    pc7_6,
    pc7_7,
    pc7_8,
    pc7_9,
    pc7_10,
    pc7_11,
    pc7_12,
    pc7_13,
    pc7_14,
    pc7_15,
    pc7_16,
    pc7_17,
    pc7_18,
    pc8_0,
    pc8_1,
    pc8_2,
    pc9_0,
    pc9_1,
    pc9_2,
    pc9_3,
    pc9_4,
    pc9_5,
    pc9_6,
    pc9_7,
    pc9_8,
    pc9_9,
    pc9_10,
    pc10_0,
    pc10_1,
    pc10_2,
    pc10_3,
    pc10_4,
    pc10_5,
    pc10_6,
    pc10_7,
    pc10_8,
    pc10_9,
    pc11_0,
    pc11_1,
    pc11_2,
    pc11_3,
    pc11_4,
    pc11_5,
    pc11_6,
    pc11_7,
    pc11_8,
    pc11_9,
    pc11_10,
    pc11_11,
    pc11_12,
    pc11_13,
    pc11_14,
    pc11_15,
    pc11_16,
    pc11_17,
    pc11_18,
    pc12_0,
    pc12_1,
    pc12_2,
    pc13_0,
    pc13_1,
    pc13_2,
    pc13_3,
    pc13_4,
    pc13_5,
    pc13_6,
    pc13_7,
    pc13_8,
    pc13_9,
    pc14_0,
    pc14_1,
    pc14_2,
    pc14_3,
    pc14_4,
    pc14_5,
    pc14_6,
    pc14_7,
    pc14_8,
    pc14_9,
    pc14_10,
    pc15_0,
    pc15_1,
    pc15_2,
    pc15_3,
    pc15_4,
    pc15_5,
    pc15_6,
    pc15_7,
    pc15_8,
    pc15_9,
    pc15_10,
    pc15_11,
    pc15_12,
    pc15_13,
    pc15_14,
    pc15_15,
    pc15_16,
    pc15_17,
    pc16_0,
    pc16_1 ]

theorem pieces_sub : (pieces : List (List (HloOp τ sig (Elt F)))).Forall fun p => p.Forall fun op => op.bufs ⊆ StableHlo.tcRefs τ sig :=
  ⟨pc0_0_sub, pc0_1_sub, pc0_2_sub, pc0_3_sub, pc1_0_sub, pc1_1_sub, pc1_2_sub, pc1_3_sub, pc1_4_sub, pc1_5_sub, pc1_6_sub, pc1_7_sub, pc1_8_sub, pc1_9_sub, pc2_0_sub, pc2_1_sub, pc2_2_sub, pc2_3_sub, pc2_4_sub, pc2_5_sub, pc2_6_sub, pc2_7_sub, pc2_8_sub, pc2_9_sub, pc3_0_sub, pc3_1_sub, pc3_2_sub, pc3_3_sub, pc3_4_sub, pc3_5_sub, pc3_6_sub, pc3_7_sub, pc3_8_sub, pc3_9_sub, pc3_10_sub, pc3_11_sub, pc3_12_sub, pc3_13_sub, pc3_14_sub, pc3_15_sub, pc3_16_sub, pc3_17_sub, pc3_18_sub, pc4_0_sub, pc4_1_sub, pc4_2_sub, pc5_0_sub, pc5_1_sub, pc5_2_sub, pc5_3_sub, pc5_4_sub, pc5_5_sub, pc5_6_sub, pc5_7_sub, pc5_8_sub, pc5_9_sub, pc5_10_sub, pc6_0_sub, pc6_1_sub, pc6_2_sub, pc6_3_sub, pc6_4_sub, pc6_5_sub, pc6_6_sub, pc6_7_sub, pc6_8_sub, pc6_9_sub, pc7_0_sub, pc7_1_sub, pc7_2_sub, pc7_3_sub, pc7_4_sub, pc7_5_sub, pc7_6_sub, pc7_7_sub, pc7_8_sub, pc7_9_sub, pc7_10_sub, pc7_11_sub, pc7_12_sub, pc7_13_sub, pc7_14_sub, pc7_15_sub, pc7_16_sub, pc7_17_sub, pc7_18_sub, pc8_0_sub, pc8_1_sub, pc8_2_sub, pc9_0_sub, pc9_1_sub, pc9_2_sub, pc9_3_sub, pc9_4_sub, pc9_5_sub, pc9_6_sub, pc9_7_sub, pc9_8_sub, pc9_9_sub, pc9_10_sub, pc10_0_sub, pc10_1_sub, pc10_2_sub, pc10_3_sub, pc10_4_sub, pc10_5_sub, pc10_6_sub, pc10_7_sub, pc10_8_sub, pc10_9_sub, pc11_0_sub, pc11_1_sub, pc11_2_sub, pc11_3_sub, pc11_4_sub, pc11_5_sub, pc11_6_sub, pc11_7_sub, pc11_8_sub, pc11_9_sub, pc11_10_sub, pc11_11_sub, pc11_12_sub, pc11_13_sub, pc11_14_sub, pc11_15_sub, pc11_16_sub, pc11_17_sub, pc11_18_sub, pc12_0_sub, pc12_1_sub, pc12_2_sub, pc13_0_sub, pc13_1_sub, pc13_2_sub, pc13_3_sub, pc13_4_sub, pc13_5_sub, pc13_6_sub, pc13_7_sub, pc13_8_sub, pc13_9_sub, pc14_0_sub, pc14_1_sub, pc14_2_sub, pc14_3_sub, pc14_4_sub, pc14_5_sub, pc14_6_sub, pc14_7_sub, pc14_8_sub, pc14_9_sub, pc14_10_sub, pc15_0_sub, pc15_1_sub, pc15_2_sub, pc15_3_sub, pc15_4_sub, pc15_5_sub, pc15_6_sub, pc15_7_sub, pc15_8_sub, pc15_9_sub, pc15_10_sub, pc15_11_sub, pc15_12_sub, pc15_13_sub, pc15_14_sub, pc15_15_sub, pc15_16_sub, pc15_17_sub, pc16_0_sub, pc16_1_sub⟩

theorem pieces_fresh : (pieces : List (List (HloOp τ sig (Elt F)))).Forall fun p => p.Forall fun op => op.fresh = ∅ :=
  ⟨pc0_0_fresh, pc0_1_fresh, pc0_2_fresh, pc0_3_fresh, pc1_0_fresh, pc1_1_fresh, pc1_2_fresh, pc1_3_fresh, pc1_4_fresh, pc1_5_fresh, pc1_6_fresh, pc1_7_fresh, pc1_8_fresh, pc1_9_fresh, pc2_0_fresh, pc2_1_fresh, pc2_2_fresh, pc2_3_fresh, pc2_4_fresh, pc2_5_fresh, pc2_6_fresh, pc2_7_fresh, pc2_8_fresh, pc2_9_fresh, pc3_0_fresh, pc3_1_fresh, pc3_2_fresh, pc3_3_fresh, pc3_4_fresh, pc3_5_fresh, pc3_6_fresh, pc3_7_fresh, pc3_8_fresh, pc3_9_fresh, pc3_10_fresh, pc3_11_fresh, pc3_12_fresh, pc3_13_fresh, pc3_14_fresh, pc3_15_fresh, pc3_16_fresh, pc3_17_fresh, pc3_18_fresh, pc4_0_fresh, pc4_1_fresh, pc4_2_fresh, pc5_0_fresh, pc5_1_fresh, pc5_2_fresh, pc5_3_fresh, pc5_4_fresh, pc5_5_fresh, pc5_6_fresh, pc5_7_fresh, pc5_8_fresh, pc5_9_fresh, pc5_10_fresh, pc6_0_fresh, pc6_1_fresh, pc6_2_fresh, pc6_3_fresh, pc6_4_fresh, pc6_5_fresh, pc6_6_fresh, pc6_7_fresh, pc6_8_fresh, pc6_9_fresh, pc7_0_fresh, pc7_1_fresh, pc7_2_fresh, pc7_3_fresh, pc7_4_fresh, pc7_5_fresh, pc7_6_fresh, pc7_7_fresh, pc7_8_fresh, pc7_9_fresh, pc7_10_fresh, pc7_11_fresh, pc7_12_fresh, pc7_13_fresh, pc7_14_fresh, pc7_15_fresh, pc7_16_fresh, pc7_17_fresh, pc7_18_fresh, pc8_0_fresh, pc8_1_fresh, pc8_2_fresh, pc9_0_fresh, pc9_1_fresh, pc9_2_fresh, pc9_3_fresh, pc9_4_fresh, pc9_5_fresh, pc9_6_fresh, pc9_7_fresh, pc9_8_fresh, pc9_9_fresh, pc9_10_fresh, pc10_0_fresh, pc10_1_fresh, pc10_2_fresh, pc10_3_fresh, pc10_4_fresh, pc10_5_fresh, pc10_6_fresh, pc10_7_fresh, pc10_8_fresh, pc10_9_fresh, pc11_0_fresh, pc11_1_fresh, pc11_2_fresh, pc11_3_fresh, pc11_4_fresh, pc11_5_fresh, pc11_6_fresh, pc11_7_fresh, pc11_8_fresh, pc11_9_fresh, pc11_10_fresh, pc11_11_fresh, pc11_12_fresh, pc11_13_fresh, pc11_14_fresh, pc11_15_fresh, pc11_16_fresh, pc11_17_fresh, pc11_18_fresh, pc12_0_fresh, pc12_1_fresh, pc12_2_fresh, pc13_0_fresh, pc13_1_fresh, pc13_2_fresh, pc13_3_fresh, pc13_4_fresh, pc13_5_fresh, pc13_6_fresh, pc13_7_fresh, pc13_8_fresh, pc13_9_fresh, pc14_0_fresh, pc14_1_fresh, pc14_2_fresh, pc14_3_fresh, pc14_4_fresh, pc14_5_fresh, pc14_6_fresh, pc14_7_fresh, pc14_8_fresh, pc14_9_fresh, pc14_10_fresh, pc15_0_fresh, pc15_1_fresh, pc15_2_fresh, pc15_3_fresh, pc15_4_fresh, pc15_5_fresh, pc15_6_fresh, pc15_7_fresh, pc15_8_fresh, pc15_9_fresh, pc15_10_fresh, pc15_11_fresh, pc15_12_fresh, pc15_13_fresh, pc15_14_fresh, pc15_15_fresh, pc15_16_fresh, pc15_17_fresh, pc16_0_fresh, pc16_1_fresh⟩

theorem pieces_nw : (pieces : List (List (HloOp τ sig (Elt F)))).Forall fun p => p.Forall fun op => (Proc.devRef .tc main_arg0 : DevRef τ sig) ∉ op.writes :=
  ⟨pc0_0_nw, pc0_1_nw, pc0_2_nw, pc0_3_nw, pc1_0_nw, pc1_1_nw, pc1_2_nw, pc1_3_nw, pc1_4_nw, pc1_5_nw, pc1_6_nw, pc1_7_nw, pc1_8_nw, pc1_9_nw, pc2_0_nw, pc2_1_nw, pc2_2_nw, pc2_3_nw, pc2_4_nw, pc2_5_nw, pc2_6_nw, pc2_7_nw, pc2_8_nw, pc2_9_nw, pc3_0_nw, pc3_1_nw, pc3_2_nw, pc3_3_nw, pc3_4_nw, pc3_5_nw, pc3_6_nw, pc3_7_nw, pc3_8_nw, pc3_9_nw, pc3_10_nw, pc3_11_nw, pc3_12_nw, pc3_13_nw, pc3_14_nw, pc3_15_nw, pc3_16_nw, pc3_17_nw, pc3_18_nw, pc4_0_nw, pc4_1_nw, pc4_2_nw, pc5_0_nw, pc5_1_nw, pc5_2_nw, pc5_3_nw, pc5_4_nw, pc5_5_nw, pc5_6_nw, pc5_7_nw, pc5_8_nw, pc5_9_nw, pc5_10_nw, pc6_0_nw, pc6_1_nw, pc6_2_nw, pc6_3_nw, pc6_4_nw, pc6_5_nw, pc6_6_nw, pc6_7_nw, pc6_8_nw, pc6_9_nw, pc7_0_nw, pc7_1_nw, pc7_2_nw, pc7_3_nw, pc7_4_nw, pc7_5_nw, pc7_6_nw, pc7_7_nw, pc7_8_nw, pc7_9_nw, pc7_10_nw, pc7_11_nw, pc7_12_nw, pc7_13_nw, pc7_14_nw, pc7_15_nw, pc7_16_nw, pc7_17_nw, pc7_18_nw, pc8_0_nw, pc8_1_nw, pc8_2_nw, pc9_0_nw, pc9_1_nw, pc9_2_nw, pc9_3_nw, pc9_4_nw, pc9_5_nw, pc9_6_nw, pc9_7_nw, pc9_8_nw, pc9_9_nw, pc9_10_nw, pc10_0_nw, pc10_1_nw, pc10_2_nw, pc10_3_nw, pc10_4_nw, pc10_5_nw, pc10_6_nw, pc10_7_nw, pc10_8_nw, pc10_9_nw, pc11_0_nw, pc11_1_nw, pc11_2_nw, pc11_3_nw, pc11_4_nw, pc11_5_nw, pc11_6_nw, pc11_7_nw, pc11_8_nw, pc11_9_nw, pc11_10_nw, pc11_11_nw, pc11_12_nw, pc11_13_nw, pc11_14_nw, pc11_15_nw, pc11_16_nw, pc11_17_nw, pc11_18_nw, pc12_0_nw, pc12_1_nw, pc12_2_nw, pc13_0_nw, pc13_1_nw, pc13_2_nw, pc13_3_nw, pc13_4_nw, pc13_5_nw, pc13_6_nw, pc13_7_nw, pc13_8_nw, pc13_9_nw, pc14_0_nw, pc14_1_nw, pc14_2_nw, pc14_3_nw, pc14_4_nw, pc14_5_nw, pc14_6_nw, pc14_7_nw, pc14_8_nw, pc14_9_nw, pc14_10_nw, pc15_0_nw, pc15_1_nw, pc15_2_nw, pc15_3_nw, pc15_4_nw, pc15_5_nw, pc15_6_nw, pc15_7_nw, pc15_8_nw, pc15_9_nw, pc15_10_nw, pc15_11_nw, pc15_12_nw, pc15_13_nw, pc15_14_nw, pc15_15_nw, pc15_16_nw, pc15_17_nw, pc16_0_nw, pc16_1_nw⟩

end Cert.ReferenceIdeal.Hand

end
-- ==== Proof.RefWindows.lean ====
/- Each window of the printed @main is, by unfolding, the chain of its pieces (a call of an outlined function being the
   callee's body applied to the call's buffers), and @main, the windows in order, is the chain of all the pieces. -/
import proofs.«111982_j16939351015723_2_alg».proof.Proof.Gen.ReferenceIdeal
import Idealize.ShloMosaic.Lib.StableHlo.Run
import proofs.«111982_j16939351015723_2_alg».proof.Proof.RefPieces
import Idealize.ShloMosaic.Lib.Pipeline.Regions

-- a list of some hundreds of operations, and a tuple of as many facts about it, nest past the default depth
set_option maxRecDepth 16384

noncomputable section

namespace Cert.ReferenceIdeal.Hand

open Cert.ReferenceIdeal.Gen Idealize.ShloMosaic Idealize.SL.Sem

variable {F : FTy → Type} [FloatOps F]

/-- Window 0 of the printed @main is the chain of its pieces, the last in tail position. -/
theorem main_part0_eq (c : Dev nD) : main_part0 (F := F) c = (Pipeline.chainK
  [ StableHlo.seq pc0_0, StableHlo.seq pc0_1, StableHlo.seq pc0_2 ]
  (StableHlo.seq pc0_3) : Prog (TpuEff nD τ sig (Elt F) (Pipeline.Sig Λ₀ (Fin 0) fun p => (pcfgs (F := F) p).Adm) .tc) PUnit) := by
  chain_rfl

/-- Window 1 of the printed @main is the chain of its pieces, the last in tail position. -/
theorem main_part1_eq (c : Dev nD) : main_part1 (F := F) c = (Pipeline.chainK
  [ StableHlo.seq pc1_0, StableHlo.seq pc1_1, StableHlo.seq pc1_2, StableHlo.seq pc1_3, StableHlo.seq pc1_4, StableHlo.seq pc1_5, StableHlo.seq pc1_6, StableHlo.seq pc1_7, StableHlo.seq pc1_8 ]
  (StableHlo.seq pc1_9) : Prog (TpuEff nD τ sig (Elt F) (Pipeline.Sig Λ₀ (Fin 0) fun p => (pcfgs (F := F) p).Adm) .tc) PUnit) := by
  chain_rfl

/-- Window 2 of the printed @main is the chain of its pieces, the last in tail position. -/
theorem main_part2_eq (c : Dev nD) : main_part2 (F := F) c = (Pipeline.chainK
  [ StableHlo.seq pc2_0, StableHlo.seq pc2_1, StableHlo.seq pc2_2, StableHlo.seq pc2_3, StableHlo.seq pc2_4, StableHlo.seq pc2_5, StableHlo.seq pc2_6, StableHlo.seq pc2_7, StableHlo.seq pc2_8 ]
  (StableHlo.seq pc2_9) : Prog (TpuEff nD τ sig (Elt F) (Pipeline.Sig Λ₀ (Fin 0) fun p => (pcfgs (F := F) p).Adm) .tc) PUnit) := by
  chain_rfl

/-- Window 3 of the printed @main is the chain of its pieces, the last in tail position. -/
theorem main_part3_eq (c : Dev nD) : main_part3 (F := F) c = (Pipeline.chainK
  [ StableHlo.seq pc3_0, StableHlo.seq pc3_1, StableHlo.seq pc3_2, StableHlo.seq pc3_3, StableHlo.seq pc3_4, StableHlo.seq pc3_5, StableHlo.seq pc3_6, StableHlo.seq pc3_7, StableHlo.seq pc3_8, StableHlo.seq pc3_9, StableHlo.seq pc3_10, StableHlo.seq pc3_11, StableHlo.seq pc3_12, StableHlo.seq pc3_13, StableHlo.seq pc3_14, StableHlo.seq pc3_15, StableHlo.seq pc3_16, StableHlo.seq pc3_17 ]
  (StableHlo.seq pc3_18) : Prog (TpuEff nD τ sig (Elt F) (Pipeline.Sig Λ₀ (Fin 0) fun p => (pcfgs (F := F) p).Adm) .tc) PUnit) := by
  chain_rfl

/-- Window 4 of the printed @main is the chain of its pieces, the last in tail position. -/
theorem main_part4_eq (c : Dev nD) : main_part4 (F := F) c = (Pipeline.chainK
  [ StableHlo.seq pc4_0, StableHlo.seq pc4_1 ]
  (StableHlo.seq pc4_2) : Prog (TpuEff nD τ sig (Elt F) (Pipeline.Sig Λ₀ (Fin 0) fun p => (pcfgs (F := F) p).Adm) .tc) PUnit) := by
  chain_rfl

/-- Window 5 of the printed @main is the chain of its pieces, the last in tail position. -/
theorem main_part5_eq (c : Dev nD) : main_part5 (F := F) c = (Pipeline.chainK
  [ StableHlo.seq pc5_0, StableHlo.seq pc5_1, StableHlo.seq pc5_2, StableHlo.seq pc5_3, StableHlo.seq pc5_4, StableHlo.seq pc5_5, StableHlo.seq pc5_6, StableHlo.seq pc5_7, StableHlo.seq pc5_8, StableHlo.seq pc5_9 ]
  (StableHlo.seq pc5_10) : Prog (TpuEff nD τ sig (Elt F) (Pipeline.Sig Λ₀ (Fin 0) fun p => (pcfgs (F := F) p).Adm) .tc) PUnit) := by
  chain_rfl

/-- Window 6 of the printed @main is the chain of its pieces, the last in tail position. -/
theorem main_part6_eq (c : Dev nD) : main_part6 (F := F) c = (Pipeline.chainK
  [ StableHlo.seq pc6_0, StableHlo.seq pc6_1, StableHlo.seq pc6_2, StableHlo.seq pc6_3, StableHlo.seq pc6_4, StableHlo.seq pc6_5, StableHlo.seq pc6_6, StableHlo.seq pc6_7, StableHlo.seq pc6_8 ]
  (StableHlo.seq pc6_9) : Prog (TpuEff nD τ sig (Elt F) (Pipeline.Sig Λ₀ (Fin 0) fun p => (pcfgs (F := F) p).Adm) .tc) PUnit) := by
  chain_rfl

/-- Window 7 of the printed @main is the chain of its pieces, the last in tail position. -/
theorem main_part7_eq (c : Dev nD) : main_part7 (F := F) c = (Pipeline.chainK
  [ StableHlo.seq pc7_0, StableHlo.seq pc7_1, StableHlo.seq pc7_2, StableHlo.seq pc7_3, StableHlo.seq pc7_4, StableHlo.seq pc7_5, StableHlo.seq pc7_6, StableHlo.seq pc7_7, StableHlo.seq pc7_8, StableHlo.seq pc7_9, StableHlo.seq pc7_10, StableHlo.seq pc7_11, StableHlo.seq pc7_12, StableHlo.seq pc7_13, StableHlo.seq pc7_14, StableHlo.seq pc7_15, StableHlo.seq pc7_16, StableHlo.seq pc7_17 ]
  (StableHlo.seq pc7_18) : Prog (TpuEff nD τ sig (Elt F) (Pipeline.Sig Λ₀ (Fin 0) fun p => (pcfgs (F := F) p).Adm) .tc) PUnit) := by
  chain_rfl

/-- Window 8 of the printed @main is the chain of its pieces, the last in tail position. -/
theorem main_part8_eq (c : Dev nD) : main_part8 (F := F) c = (Pipeline.chainK
  [ StableHlo.seq pc8_0, StableHlo.seq pc8_1 ]
  (StableHlo.seq pc8_2) : Prog (TpuEff nD τ sig (Elt F) (Pipeline.Sig Λ₀ (Fin 0) fun p => (pcfgs (F := F) p).Adm) .tc) PUnit) := by
  chain_rfl

/-- Window 9 of the printed @main is the chain of its pieces, the last in tail position. -/
theorem main_part9_eq (c : Dev nD) : main_part9 (F := F) c = (Pipeline.chainK
  [ StableHlo.seq pc9_0, StableHlo.seq pc9_1, StableHlo.seq pc9_2, StableHlo.seq pc9_3, StableHlo.seq pc9_4, StableHlo.seq pc9_5, StableHlo.seq pc9_6, StableHlo.seq pc9_7, StableHlo.seq pc9_8, StableHlo.seq pc9_9 ]
  (StableHlo.seq pc9_10) : Prog (TpuEff nD τ sig (Elt F) (Pipeline.Sig Λ₀ (Fin 0) fun p => (pcfgs (F := F) p).Adm) .tc) PUnit) := by
  chain_rfl

/-- Window 10 of the printed @main is the chain of its pieces, the last in tail position. -/
theorem main_part10_eq (c : Dev nD) : main_part10 (F := F) c = (Pipeline.chainK
  [ StableHlo.seq pc10_0, StableHlo.seq pc10_1, StableHlo.seq pc10_2, StableHlo.seq pc10_3, StableHlo.seq pc10_4, StableHlo.seq pc10_5, StableHlo.seq pc10_6, StableHlo.seq pc10_7, StableHlo.seq pc10_8 ]
  (StableHlo.seq pc10_9) : Prog (TpuEff nD τ sig (Elt F) (Pipeline.Sig Λ₀ (Fin 0) fun p => (pcfgs (F := F) p).Adm) .tc) PUnit) := by
  chain_rfl

/-- Window 11 of the printed @main is the chain of its pieces, the last in tail position. -/
theorem main_part11_eq (c : Dev nD) : main_part11 (F := F) c = (Pipeline.chainK
  [ StableHlo.seq pc11_0, StableHlo.seq pc11_1, StableHlo.seq pc11_2, StableHlo.seq pc11_3, StableHlo.seq pc11_4, StableHlo.seq pc11_5, StableHlo.seq pc11_6, StableHlo.seq pc11_7, StableHlo.seq pc11_8, StableHlo.seq pc11_9, StableHlo.seq pc11_10, StableHlo.seq pc11_11, StableHlo.seq pc11_12, StableHlo.seq pc11_13, StableHlo.seq pc11_14, StableHlo.seq pc11_15, StableHlo.seq pc11_16, StableHlo.seq pc11_17 ]
  (StableHlo.seq pc11_18) : Prog (TpuEff nD τ sig (Elt F) (Pipeline.Sig Λ₀ (Fin 0) fun p => (pcfgs (F := F) p).Adm) .tc) PUnit) := by
  chain_rfl

/-- Window 12 of the printed @main is the chain of its pieces, the last in tail position. -/
theorem main_part12_eq (c : Dev nD) : main_part12 (F := F) c = (Pipeline.chainK
  [ StableHlo.seq pc12_0, StableHlo.seq pc12_1 ]
  (StableHlo.seq pc12_2) : Prog (TpuEff nD τ sig (Elt F) (Pipeline.Sig Λ₀ (Fin 0) fun p => (pcfgs (F := F) p).Adm) .tc) PUnit) := by
  chain_rfl

/-- Window 13 of the printed @main is the chain of its pieces, the last in tail position. -/
theorem main_part13_eq (c : Dev nD) : main_part13 (F := F) c = (Pipeline.chainK
  [ StableHlo.seq pc13_0, StableHlo.seq pc13_1, StableHlo.seq pc13_2, StableHlo.seq pc13_3, StableHlo.seq pc13_4, StableHlo.seq pc13_5, StableHlo.seq pc13_6, StableHlo.seq pc13_7, StableHlo.seq pc13_8 ]
  (StableHlo.seq pc13_9) : Prog (TpuEff nD τ sig (Elt F) (Pipeline.Sig Λ₀ (Fin 0) fun p => (pcfgs (F := F) p).Adm) .tc) PUnit) := by
  chain_rfl

/-- Window 14 of the printed @main is the chain of its pieces, the last in tail position. -/
theorem main_part14_eq (c : Dev nD) : main_part14 (F := F) c = (Pipeline.chainK
  [ StableHlo.seq pc14_0, StableHlo.seq pc14_1, StableHlo.seq pc14_2, StableHlo.seq pc14_3, StableHlo.seq pc14_4, StableHlo.seq pc14_5, StableHlo.seq pc14_6, StableHlo.seq pc14_7, StableHlo.seq pc14_8, StableHlo.seq pc14_9 ]
  (StableHlo.seq pc14_10) : Prog (TpuEff nD τ sig (Elt F) (Pipeline.Sig Λ₀ (Fin 0) fun p => (pcfgs (F := F) p).Adm) .tc) PUnit) := by
  chain_rfl

/-- Window 15 of the printed @main is the chain of its pieces, the last in tail position. -/
theorem main_part15_eq (c : Dev nD) : main_part15 (F := F) c = (Pipeline.chainK
  [ StableHlo.seq pc15_0, StableHlo.seq pc15_1, StableHlo.seq pc15_2, StableHlo.seq pc15_3, StableHlo.seq pc15_4, StableHlo.seq pc15_5, StableHlo.seq pc15_6, StableHlo.seq pc15_7, StableHlo.seq pc15_8, StableHlo.seq pc15_9, StableHlo.seq pc15_10, StableHlo.seq pc15_11, StableHlo.seq pc15_12, StableHlo.seq pc15_13, StableHlo.seq pc15_14, StableHlo.seq pc15_15, StableHlo.seq pc15_16 ]
  (StableHlo.seq pc15_17) : Prog (TpuEff nD τ sig (Elt F) (Pipeline.Sig Λ₀ (Fin 0) fun p => (pcfgs (F := F) p).Adm) .tc) PUnit) := by
  chain_rfl

/-- The last window of the printed @main is the chain of its pieces. -/
theorem main_part16_eq (c : Dev nD) : main_part16 (F := F) c = (Pipeline.chain
  [ StableHlo.seq pc16_0, StableHlo.seq pc16_1 ] : Prog (TpuEff nD τ sig (Elt F) (Pipeline.Sig Λ₀ (Fin 0) fun p => (pcfgs (F := F) p).Adm) .tc) PUnit) := by
  chain_rfl

/-- @main is the chain of all the pieces: window by window, each window's chain joined to the chain of the rest. -/
theorem main_chain (c : Dev nD) : main (F := F) c = (Pipeline.chain ((pieces (F := F)).map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c) = _
  rewrite [main_part16_eq, main_part15_eq, Pipeline.chainK_bind_chain, main_part14_eq, Pipeline.chainK_bind_chain, main_part13_eq, Pipeline.chainK_bind_chain, main_part12_eq, Pipeline.chainK_bind_chain, main_part11_eq, Pipeline.chainK_bind_chain, main_part10_eq, Pipeline.chainK_bind_chain, main_part9_eq, Pipeline.chainK_bind_chain, main_part8_eq, Pipeline.chainK_bind_chain, main_part7_eq, Pipeline.chainK_bind_chain, main_part6_eq, Pipeline.chainK_bind_chain, main_part5_eq, Pipeline.chainK_bind_chain, main_part4_eq, Pipeline.chainK_bind_chain, main_part3_eq, Pipeline.chainK_bind_chain, main_part2_eq, Pipeline.chainK_bind_chain, main_part1_eq, Pipeline.chainK_bind_chain, main_part0_eq, Pipeline.chainK_bind_chain]
  chain_rfl

end Cert.ReferenceIdeal.Hand

end
-- ==== Proof.RefRun.lean ====
/-
  The run of the reference program: its @main is a straight line of host operations, so every weakly fair
  execution terminates with each buffer of the core at the fold of the operations' results over the launch
  contents, and the program's argument, which no operation writes, is left as launched.

  @main is printed in windows, and a call of an outlined function is the callee's body applied to the call's
  buffers. Each window is, by unfolding, the chain of its pieces (a piece: consecutive operations of one window
  between two calls, or the operations of one call with the calls nested in it); the windows' chains joined are
  the chain of all the pieces; a chain of straight lines is the straight line of the concatenation; and the
  concatenation of the pieces is the concatenation of the named stretches, both being the same list.
-/
import proofs.«111982_j16939351015723_2_alg».proof.Proof.RefWindows

set_option maxRecDepth 16384

noncomputable section

namespace Cert.ReferenceIdeal.Hand

open Cert.ReferenceIdeal.Gen Idealize.ShloMosaic Idealize.ShloMosaic.TcCoe Idealize.SL.Sem

variable {F : FTy → Type} [FloatOps F]

/-! ## The chain of the pieces is the straight line of all the operations -/

/-- A chain of straight lines is the straight line of their concatenation. -/
theorem chain_seqs {nD : Nat} {τ : Topo} {sig : RefSig} {Val : EltTy → Type} {Λ : Labels} :
    ∀ ps : List (List (HloOp τ sig Val)),
      (Pipeline.chain (ps.map StableHlo.seq) : Prog (TpuEff nD τ sig Val Λ .tc) PUnit) = StableHlo.seq ps.flatten
  | [] => rfl
  | p :: ps => by
    rw [List.map_cons, Pipeline.chain_cons, chain_seqs ps, List.flatten_cons, StableHlo.seq_append]

/-- The pieces one after the other are the stretches one after the other: one list, cut in two ways. -/
theorem flatten_eq : (pieces (F := F)).flatten = ops := by
  chain_rfl

/-- @main is the straight line of its operations. -/
theorem main_eq (c : Dev nD) : main (F := F) c = StableHlo.seq ops := by
  rw [main_chain c, chain_seqs, flatten_eq]

/-! ## The side conditions of the run -/

/-- A property of every operation of every piece is a property of every operation of the concatenation. -/
theorem forall_flatten {α : Type} {P : α → Prop} (ps : List (List α)) (h : ps.Forall fun p => p.Forall P) :
    ps.flatten.Forall P := by
  rw [List.forall_iff_forall_mem] at h ⊢
  intro x hx
  obtain ⟨l, hl, hxl⟩ := List.mem_flatten.mp hx
  exact List.forall_iff_forall_mem.mp (h l hl) x hxl

/-- Every operation touches references of the core only. -/
theorem ops_sub : (ops : List (HloOp τ sig (Elt F))).Forall fun op => op.bufs ⊆ StableHlo.tcRefs τ sig := by
  rw [← flatten_eq]; exact forall_flatten _ pieces_sub

/-- Every operation determines its results. -/
theorem ops_fresh : ∀ op ∈ (ops : List (HloOp τ sig (Elt F))), op.fresh = ∅ := by
  rw [← flatten_eq]; exact List.forall_iff_forall_mem.mp (forall_flatten _ pieces_fresh)

/-- No operation writes the program's argument. -/
theorem ops_nw : ∀ op ∈ (ops : List (HloOp τ sig (Elt F))), (Proc.devRef .tc main_arg0 : DevRef τ sig) ∉ op.writes := by
  rw [← flatten_eq]; exact List.forall_iff_forall_mem.mp (forall_flatten _ pieces_nw)

/-- The signature scopes no buffer of the core. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## The run -/

/-- On every device, for any float values, from any memory with zero counters: every weakly fair execution of
    @main terminates, and every final state has each buffer of the core at the fold of the operations' results
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-- The argument's buffer holds after the line what it held before: no operation writes it. -/
theorem kept_arg0 (V : Valuation τ sig (Elt F)) :
    StableHlo.after ops V (Proc.devRef .tc main_arg0) = V (Proc.devRef .tc main_arg0) :=
  StableHlo.after_of_forall_not_mem ops V ops_nw

/-- The frame: @main terminates and leaves its argument as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c main_arg0).trans (kept_arg0 (StableHlo.launchContents m c))) (run m ρ)

end Cert.ReferenceIdeal.Hand

end
-- ==== Proof.KTail.lean ====
/- The host operations that follow the region, in order, regrouped by the batch they belong to: the reshape of the
   region's result, then for each of the four batches the operations that turn the batch's cell ids and points into its
   voxels, point counts and coordinates, then the three concatenations. The regrouped list is the concatenation of the
   segments the program's text is cut into (flatten_eq). -/
import proofs.«111982_j16939351015723_2_alg».proof.Proof.Gen.KernelIdeal.Launch
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem

variable {F : FTy → Type} [FloatOps F]

set_option maxHeartbeats 40000000 in
/-- The region's result [4,1,300000] reshaped to [4,300000]. -/
abbrev kHead : List (HloOp τ sig (Elt F)) :=
  [ StableHlo.reshape main_v63 main_v64 rfl shapeCasts_S4x1x300000_S4x300000 ]

set_option maxHeartbeats 40000000 in
/-- Batch 0: its row of cell ids sliced out, the validity mask recomputed from it, and everything downstream. -/
abbrev ks0 : List (HloOp τ sig (Elt F)) :=
  [ StableHlo.unary main_v64 main_v65 ((extractStridedSlice S1x300000 ![0, 0] · slices_S4x300000_S1x300000_0_0) : (⟨S4x300000, .i32⟩ : BufTy).Contents (Elt F) → (⟨S1x300000, .i32⟩ : BufTy).Contents (Elt F)),
    StableHlo.reshape main_v65 main_v66 rfl shapeCasts_S1x300000_S300000,
    StableHlo.nullary main_c_34 (constantI S_ 32 262144#32),
    StableHlo.unary main_c_34 main_v67 (broadcastInDim S300000 ![] bcast_S_S300000 : (⟨S_, .i32⟩ : BufTy).Contents (Elt F) → (⟨S300000, .i32⟩ : BufTy).Contents (Elt F)),
    StableHlo.binary main_v66 main_v67 main_v68 (cmpi .ne : (⟨S300000, .i32⟩ : BufTy).Contents (Elt F) → (⟨S300000, .i32⟩ : BufTy).Contents (Elt F) → (⟨S300000, .i1⟩ : BufTy).Contents (Elt F)),
    StableHlo.nullary main_v69 (iotaInDim S300000 32 0),
    StableHlo.nullary main_c_35 (constantI S_ 32 300000#32),
    StableHlo.unary main_c_35 main_v70 (broadcastInDim S262145 ![] bcast_S_S262145 : (⟨S_, .i32⟩ : BufTy).Contents (Elt F) → (⟨S262145, .i32⟩ : BufTy).Contents (Elt F)),
    StableHlo.nullary main_c_36 (constantI S_ 32 0#32),
    StableHlo.unary main_c_36 main_v71 (broadcastInDim S300000 ![] bcast_S_S300000 : (⟨S_, .i32⟩ : BufTy).Contents (Elt F) → (⟨S300000, .i32⟩ : BufTy).Contents (Elt F)),
    StableHlo.binary main_v66 main_v71 main_v72 (cmpi .slt : (⟨S300000, .i32⟩ : BufTy).Contents (Elt F) → (⟨S300000, .i32⟩ : BufTy).Contents (Elt F) → (⟨S300000, .i1⟩ : BufTy).Contents (Elt F)),
    StableHlo.nullary main_c_37 (constantI S_ 32 262145#32),
    StableHlo.unary main_c_37 main_v73 (broadcastInDim S300000 ![] bcast_S_S300000 : (⟨S_, .i32⟩ : BufTy).Contents (Elt F) → (⟨S300000, .i32⟩ : BufTy).Contents (Elt F)),
    StableHlo.binary main_v66 main_v73 main_v74 (addi : (⟨S300000, .i32⟩ : BufTy).Contents (Elt F) → (⟨S300000, .i32⟩ : BufTy).Contents (Elt F) → (⟨S300000, .i32⟩ : BufTy).Contents (Elt F)),
    StableHlo.ternary main_v72 main_v74 main_v66 main_v75 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v75 main_v76 (broadcastInDim S300000x1 ![0] bcast_S300000_S300000x1_0 : (⟨S300000, .i32⟩ : BufTy).Contents (Elt F) → (⟨S300000x1, .i32⟩ : BufTy).Contents (Elt F)),
    StableHlo.ternary main_v70 main_v76 main_v69 main_v77 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_38 (constantI S_ 32 0#32),
    StableHlo.unary main_c_38 main_v78 (broadcastInDim S300000 ![] bcast_S_S300000 : (⟨S_, .i32⟩ : BufTy).Contents (Elt F) → (⟨S300000, .i32⟩ : BufTy).Contents (Elt F)),
    StableHlo.binary main_v66 main_v78 main_v79 (cmpi .slt : (⟨S300000, .i32⟩ : BufTy).Contents (Elt F) → (⟨S300000, .i32⟩ : BufTy).Contents (Elt F) → (⟨S300000, .i1⟩ : BufTy).Contents (Elt F)),
    StableHlo.nullary main_c_39 (constantI S_ 32 262145#32),
    StableHlo.unary main_c_39 main_v80 (broadcastInDim S300000 ![] bcast_S_S300000 : (⟨S_, .i32⟩ : BufTy).Contents (Elt F) → (⟨S300000, .i32⟩ : BufTy).Contents (Elt F)),
    StableHlo.binary main_v66 main_v80 main_v81 (addi : (⟨S300000, .i32⟩ : BufTy).Contents (Elt F) → (⟨S300000, .i32⟩ : BufTy).Contents (Elt F) → (⟨S300000, .i32⟩ : BufTy).Contents (Elt F)),
    StableHlo.ternary main_v79 main_v81 main_v66 main_v82 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v82 main_v83 (broadcastInDim S300000x1 ![0] bcast_S300000_S300000x1_0 : (⟨S300000, .i32⟩ : BufTy).Contents (Elt F) → (⟨S300000x1, .i32⟩ : BufTy).Contents (Elt F)),
    StableHlo.binary main_v77 main_v83 main_v84 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v84 main_v69 main_v85 (cmpi .eq : (⟨S300000, .i32⟩ : BufTy).Contents (Elt F) → (⟨S300000, .i32⟩ : BufTy).Contents (Elt F) → (⟨S300000, .i1⟩ : BufTy).Contents (Elt F)),
    StableHlo.binary main_v68 main_v85 main_v86 (andi : (⟨S300000, .i1⟩ : BufTy).Contents (Elt F) → (⟨S300000, .i1⟩ : BufTy).Contents (Elt F) → (⟨S300000, .i1⟩ : BufTy).Contents (Elt F)),
    StableHlo.unary main_v86 main_v87 ((extui 32 · natLt_1_32) : (⟨S300000, .i1⟩ : BufTy).Contents (Elt F) → (⟨S300000, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v87 : StableHlo.TRef sig ⟨S300000, .i32⟩) (.of main_call0_call0_v0 : StableHlo.TRef sig ⟨S_, .i32⟩) (.of main_v88 : StableHlo.TRef sig ⟨S300000, .i32⟩) (fun x v => Host.reduceWindow IntOp.addi ![300000] ![1] ![299999] ![0] x v reduceWindows_S300000_S300000_w300000s1p299999_0 h_S_),
    StableHlo.nullary main_c_40 (constantI S_ 32 1#32),
    StableHlo.unary main_c_40 main_v89 (broadcastInDim S300000 ![] bcast_S_S300000 : (⟨S_, .i32⟩ : BufTy).Contents (Elt F) → (⟨S300000, .i32⟩ : BufTy).Contents (Elt F)),
    StableHlo.binary main_v88 main_v89 main_v90 (subi : (⟨S300000, .i32⟩ : BufTy).Contents (Elt F) → (⟨S300000, .i32⟩ : BufTy).Contents (Elt F) → (⟨S300000, .i32⟩ : BufTy).Contents (Elt F)),
    StableHlo.nullary main_c_41 (constantI S_ 32 30000#32),
    StableHlo.unary main_c_41 main_v91 (broadcastInDim S262145 ![] bcast_S_S262145 : (⟨S_, .i32⟩ : BufTy).Contents (Elt F) → (⟨S262145, .i32⟩ : BufTy).Contents (Elt F)),
    StableHlo.nullary main_c_42 (constantI S_ 32 262144#32),
    StableHlo.TRef.unary (.of main_c_42 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S300000, .i32⟩) (broadcastInDim S300000 ![] bcast_S_S300000),
    StableHlo.TRef.ternary (.of main_v86 : StableHlo.TRef sig ⟨S300000, .i1⟩) (.of main_v66 : StableHlo.TRef sig ⟨S300000, .i32⟩) (.of main_call1_v1 : StableHlo.TRef sig ⟨S300000, .i32⟩) (.of main_v92 : StableHlo.TRef sig ⟨S300000, .i32⟩) select,
    StableHlo.nullary main_c_43 (constantI S_ 32 30000#32),
    StableHlo.unary main_c_43 main_v93 (broadcastInDim S300000 ![] bcast_S_S300000 : (⟨S_, .i32⟩ : BufTy).Contents (Elt F) → (⟨S300000, .i32⟩ : BufTy).Contents (Elt F)),
    StableHlo.binary main_v90 main_v93 main_v94 (minsi : (⟨S300000, .i32⟩ : BufTy).Contents (Elt F) → (⟨S300000, .i32⟩ : BufTy).Contents (Elt F) → (⟨S300000, .i32⟩ : BufTy).Contents (Elt F)),
    StableHlo.nullary main_c_44 (constantI S_ 32 30000#32),
    StableHlo.TRef.unary (.of main_c_44 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S300000, .i32⟩) (broadcastInDim S300000 ![] bcast_S_S300000),
    StableHlo.TRef.ternary (.of main_v86 : StableHlo.TRef sig ⟨S300000, .i1⟩) (.of main_v94 : StableHlo.TRef sig ⟨S300000, .i32⟩) (.of main_call2_v1 : StableHlo.TRef sig ⟨S300000, .i32⟩) (.of main_v95 : StableHlo.TRef sig ⟨S300000, .i32⟩) select,
    StableHlo.nullary main_c_45 (constantI S_ 32 0#32),
    StableHlo.unary main_c_45 main_v96 (broadcastInDim S300000 ![] bcast_S_S300000 : (⟨S_, .i32⟩ : BufTy).Contents (Elt F) → (⟨S300000, .i32⟩ : BufTy).Contents (Elt F)),
    StableHlo.binary main_v92 main_v96 main_v97 (cmpi .slt : (⟨S300000, .i32⟩ : BufTy).Contents (Elt F) → (⟨S300000, .i32⟩ : BufTy).Contents (Elt F) → (⟨S300000, .i1⟩ : BufTy).Contents (Elt F)),
    StableHlo.nullary main_c_46 (constantI S_ 32 262145#32),
    StableHlo.unary main_c_46 main_v98 (broadcastInDim S300000 ![] bcast_S_S300000 : (⟨S_, .i32⟩ : BufTy).Contents (Elt F) → (⟨S300000, .i32⟩ : BufTy).Contents (Elt F)),
    StableHlo.binary main_v92 main_v98 main_v99 (addi : (⟨S300000, .i32⟩ : BufTy).Contents (Elt F) → (⟨S300000, .i32⟩ : BufTy).Contents (Elt F) → (⟨S300000, .i32⟩ : BufTy).Contents (Elt F)),
    StableHlo.ternary main_v97 main_v99 main_v92 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v100 main_v101 (broadcastInDim S300000x1 ![0] bcast_S300000_S300000x1_0 : (⟨S300000, .i32⟩ : BufTy).Contents (Elt F) → (⟨S300000x1, .i32⟩ : BufTy).Contents (Elt F)),
    StableHlo.ternary main_v91 main_v101 main_v95 main_v102 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_47 (constantI S_ 32 0#32),
    StableHlo.unary main_c_47 main_v103 (broadcastInDim S300000 ![] bcast_S_S300000 : (⟨S_, .i32⟩ : BufTy).Contents (Elt F) → (⟨S300000, .i32⟩ : BufTy).Contents (Elt F)),
    StableHlo.binary main_v66 main_v103 main_v104 (cmpi .slt : (⟨S300000, .i32⟩ : BufTy).Contents (Elt F) → (⟨S300000, .i32⟩ : BufTy).Contents (Elt F) → (⟨S300000, .i1⟩ : BufTy).Contents (Elt F)),
    StableHlo.nullary main_c_48 (constantI S_ 32 262145#32),
    StableHlo.unary main_c_48 main_v105 (broadcastInDim S300000 ![] bcast_S_S300000 : (⟨S_, .i32⟩ : BufTy).Contents (Elt F) → (⟨S300000, .i32⟩ : BufTy).Contents (Elt F)),
    StableHlo.binary main_v66 main_v105 main_v106 (addi : (⟨S300000, .i32⟩ : BufTy).Contents (Elt F) → (⟨S300000, .i32⟩ : BufTy).Contents (Elt F) → (⟨S300000, .i32⟩ : BufTy).Contents (Elt F)),
    StableHlo.ternary main_v104 main_v106 main_v66 main_v107 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v107 main_v108 (broadcastInDim S300000x1 ![0] bcast_S300000_S300000x1_0 : (⟨S300000, .i32⟩ : BufTy).Contents (Elt F) → (⟨S300000x1, .i32⟩ : BufTy).Contents (Elt F)),
    StableHlo.binary main_v102 main_v108 main_v109 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_49 (constantI S_ 32 30000#32),
    StableHlo.TRef.unary (.of main_c_49 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S300000, .i32⟩) (broadcastInDim S300000 ![] bcast_S_S300000),
    StableHlo.TRef.ternary (.of main_v68 : StableHlo.TRef sig ⟨S300000, .i1⟩) (.of main_v109 : StableHlo.TRef sig ⟨S300000, .i32⟩) (.of main_call3_v1 : StableHlo.TRef sig ⟨S300000, .i32⟩) (.of main_v110 : StableHlo.TRef sig ⟨S300000, .i32⟩) select,
    StableHlo.TRef.nullary (.of main_call4_v0 : StableHlo.TRef sig ⟨S300000, .i32⟩) (iotaInDim S300000 32 0),
    StableHlo.TRef.binary (.of main_v66 : StableHlo.TRef sig ⟨S300000, .i32⟩) (.of main_call4_v0 : StableHlo.TRef sig ⟨S300000, .i32⟩) (.of main_call4_v1_0 : StableHlo.TRef sig ⟨S300000, .i32⟩) (fun x y => (Host.sort2 S300000 0 comparator_i32_i32_d0 x y).1),
    StableHlo.TRef.binary (.of main_v66 : StableHlo.TRef sig ⟨S300000, .i32⟩) (.of main_call4_v0 : StableHlo.TRef sig ⟨S300000, .i32⟩) (.of main_v111 : StableHlo.TRef sig ⟨S300000, .i32⟩) (fun x y => (Host.sort2 S300000 0 comparator_i32_i32_d0 x y).2),
    StableHlo.nullary main_c_50 (constantI S_ 32 0#32),
    StableHlo.unary main_c_50 main_v112 (broadcastInDim S300000 ![] bcast_S_S300000 : (⟨S_, .i32⟩ : BufTy).Contents (Elt F) → (⟨S300000, .i32⟩ : BufTy).Contents (Elt F)),
    StableHlo.binary main_v111 main_v112 main_v113 (cmpi .slt : (⟨S300000, .i32⟩ : BufTy).Contents (Elt F) → (⟨S300000, .i32⟩ : BufTy).Contents (Elt F) → (⟨S300000, .i1⟩ : BufTy).Contents (Elt F)),
    StableHlo.nullary main_c_51 (constantI S_ 32 300000#32),
    StableHlo.unary main_c_51 main_v114 (broadcastInDim S300000 ![] bcast_S_S300000 : (⟨S_, .i32⟩ : BufTy).Contents (Elt F) → (⟨S300000, .i32⟩ : BufTy).Contents (Elt F)),
    StableHlo.binary main_v111 main_v114 main_v115 (addi : (⟨S300000, .i32⟩ : BufTy).Contents (Elt F) → (⟨S300000, .i32⟩ : BufTy).Contents (Elt F) → (⟨S300000, .i32⟩ : BufTy).Contents (Elt F)),
    StableHlo.ternary main_v113 main_v115 main_v111 main_v116 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v116 main_v117 (broadcastInDim S300000x1 ![0] bcast_S300000_S300000x1_0 : (⟨S300000, .i32⟩ : BufTy).Contents (Elt F) → (⟨S300000x1, .i32⟩ : BufTy).Contents (Elt F)),
    StableHlo.binary main_v66 main_v117 main_v118 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_52 (constantI S_ 1 1#1),
    StableHlo.unary main_c_52 main_v119 (broadcastInDim S1 ![] bcast_S_S1 : (⟨S_, .i1⟩ : BufTy).Contents (Elt F) → (⟨S1, .i1⟩ : BufTy).Contents (Elt F)),
    StableHlo.unary main_v118 main_v120 ((extractStridedSlice S299999 ![1] · slices_S300000_S299999_1) : (⟨S300000, .i32⟩ : BufTy).Contents (Elt F) → (⟨S299999, .i32⟩ : BufTy).Contents (Elt F)),
    StableHlo.unary main_v118 main_v121 ((extractStridedSlice S299999 ![0] · slices_S300000_S299999_0) : (⟨S300000, .i32⟩ : BufTy).Contents (Elt F) → (⟨S299999, .i32⟩ : BufTy).Contents (Elt F)),
    StableHlo.binary main_v120 main_v121 main_v122 (cmpi .ne : (⟨S299999, .i32⟩ : BufTy).Contents (Elt F) → (⟨S299999, .i32⟩ : BufTy).Contents (Elt F) → (⟨S299999, .i1⟩ : BufTy).Contents (Elt F)),
    StableHlo.binary main_v119 main_v122 main_v123 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_53 (constantI S_ 32 0#32),
    StableHlo.TRef.unary (.of main_c_53 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S300000, .i32⟩) (broadcastInDim S300000 ![] bcast_S_S300000),
    StableHlo.TRef.ternary (.of main_v123 : StableHlo.TRef sig ⟨S300000, .i1⟩) (.of main_v69 : StableHlo.TRef sig ⟨S300000, .i32⟩) (.of main_call5_v1 : StableHlo.TRef sig ⟨S300000, .i32⟩) (.of main_v124 : StableHlo.TRef sig ⟨S300000, .i32⟩) select,
    StableHlo.TRef.nullary (.of main_call6_c : StableHlo.TRef sig ⟨S_, .i32⟩) (constantI S_ 32 2147483648#32),
    StableHlo.TRef.unary (.of main_call6_c : StableHlo.TRef sig ⟨S_, .i32⟩) (.of main_call6_v0 : StableHlo.TRef sig ⟨S_, .i32⟩) (broadcastInDim S_ ![] bcast_S_S_),
    StableHlo.TRef.binary (.of main_v124 : StableHlo.TRef sig ⟨S300000, .i32⟩) (.of main_call6_v0 : StableHlo.TRef sig ⟨S_, .i32⟩) (.of main_v125 : StableHlo.TRef sig ⟨S300000, .i32⟩) (fun x v => Host.reduceWindow IntOp.maxsi ![300000] ![1] ![299999] ![0] x v reduceWindows_S300000_S300000_w300000s1p299999_0 h_S_),
    StableHlo.nullary main_c_54 (constantI S_ 32 0#32),
    StableHlo.unary main_c_54 main_v126 (broadcastInDim S300000 ![] bcast_S_S300000 : (⟨S_, .i32⟩ : BufTy).Contents (Elt F) → (⟨S300000, .i32⟩ : BufTy).Contents (Elt F)),
    StableHlo.binary main_v69 main_v125 main_v127 (subi : (⟨S300000, .i32⟩ : BufTy).Contents (Elt F) → (⟨S300000, .i32⟩ : BufTy).Contents (Elt F) → (⟨S300000, .i32⟩ : BufTy).Contents (Elt F)),
    StableHlo.nullary main_c_55 (constantI S_ 32 0#32),
    StableHlo.unary main_c_55 main_v128 (broadcastInDim S300000 ![] bcast_S_S300000 : (⟨S_, .i32⟩ : BufTy).Contents (Elt F) → (⟨S300000, .i32⟩ : BufTy).Contents (Elt F)),
    StableHlo.binary main_v111 main_v128 main_v129 (cmpi .slt : (⟨S300000, .i32⟩ : BufTy).Contents (Elt F) → (⟨S300000, .i32⟩ : BufTy).Contents (Elt F) → (⟨S300000, .i1⟩ : BufTy).Contents (Elt F)),
    StableHlo.nullary main_c_56 (constantI S_ 32 300000#32),
    StableHlo.unary main_c_56 main_v130 (broadcastInDim S300000 ![] bcast_S_S300000 : (⟨S_, .i32⟩ : BufTy).Contents (Elt F) → (⟨S300000, .i32⟩ : BufTy).Contents (Elt F)),
    StableHlo.binary main_v111 main_v130 main_v131 (addi : (⟨S300000, .i32⟩ : BufTy).Contents (Elt F) → (⟨S300000, .i32⟩ : BufTy).Contents (Elt F) → (⟨S300000, .i32⟩ : BufTy).Contents (Elt F)),
    StableHlo.ternary main_v129 main_v131 main_v111 main_v132 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v132 main_v133 (broadcastInDim S300000x1 ![0] bcast_S300000_S300000x1_0 : (⟨S300000, .i32⟩ : BufTy).Contents (Elt F) → (⟨S300000x1, .i32⟩ : BufTy).Contents (Elt F)),
    StableHlo.ternary main_v126 main_v133 main_v127 main_v134 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_57 (constantI S_ 32 30000#32),
    StableHlo.unary main_c_57 main_v135 (broadcastInDim S300000 ![] bcast_S_S300000 : (⟨S_, .i32⟩ : BufTy).Contents (Elt F) → (⟨S300000, .i32⟩ : BufTy).Contents (Elt F)),
    StableHlo.binary main_v110 main_v135 main_v136 (cmpi .slt : (⟨S300000, .i32⟩ : BufTy).Contents (Elt F) → (⟨S300000, .i32⟩ : BufTy).Contents (Elt F) → (⟨S300000, .i1⟩ : BufTy).Contents (Elt F)),
    StableHlo.binary main_v68 main_v136 main_v137 (andi : (⟨S300000, .i1⟩ : BufTy).Contents (Elt F) → (⟨S300000, .i1⟩ : BufTy).Contents (Elt F) → (⟨S300000, .i1⟩ : BufTy).Contents (Elt F)),
    StableHlo.nullary main_c_58 (constantI S_ 32 20#32),
    StableHlo.unary main_c_58 main_v138 (broadcastInDim S300000 ![] bcast_S_S300000 : (⟨S_, .i32⟩ : BufTy).Contents (Elt F) → (⟨S300000, .i32⟩ : BufTy).Contents (Elt F)),
    StableHlo.binary main_v134 main_v138 main_v139 (cmpi .slt : (⟨S300000, .i32⟩ : BufTy).Contents (Elt F) → (⟨S300000, .i32⟩ : BufTy).Contents (Elt F) → (⟨S300000, .i1⟩ : BufTy).Contents (Elt F)),
    StableHlo.binary main_v137 main_v139 main_v140 (andi : (⟨S300000, .i1⟩ : BufTy).Contents (Elt F) → (⟨S300000, .i1⟩ : BufTy).Contents (Elt F) → (⟨S300000, .i1⟩ : BufTy).Contents (Elt F)),
    StableHlo.nullary main_c_59 (constantI S_ 32 30000#32),
    StableHlo.TRef.unary (.of main_c_59 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S300000, .i32⟩) (broadcastInDim S300000 ![] bcast_S_S300000),
    StableHlo.TRef.ternary (.of main_v140 : StableHlo.TRef sig ⟨S300000, .i1⟩) (.of main_v110 : StableHlo.TRef sig ⟨S300000, .i32⟩) (.of main_call7_v1 : StableHlo.TRef sig ⟨S300000, .i32⟩) (.of main_v141 : StableHlo.TRef sig ⟨S300000, .i32⟩) select,
    StableHlo.nullary main_c_60 (constantI S_ 32 0#32),
    StableHlo.TRef.unary (.of main_c_60 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S300000, .i32⟩) (broadcastInDim S300000 ![] bcast_S_S300000),
    StableHlo.TRef.ternary (.of main_v140 : StableHlo.TRef sig ⟨S300000, .i1⟩) (.of main_v134 : StableHlo.TRef sig ⟨S300000, .i32⟩) (.of main_call8_v1 : StableHlo.TRef sig ⟨S300000, .i32⟩) (.of main_v142 : StableHlo.TRef sig ⟨S300000, .i32⟩) select,
    StableHlo.nullary main_cst_61 (constant S_ .f32 0x00000000#32),
    StableHlo.unary main_cst_61 main_v143 (broadcastInDim S30001x20x5 ![] bcast_S_S30001x20x5 : (⟨S_, .f32⟩ : BufTy).Contents (Elt F) → (⟨S30001x20x5, .f32⟩ : BufTy).Contents (Elt F)),
    StableHlo.unary main_v140 main_v144 (broadcastInDim S300000x1 ![0] bcast_S300000_S300000x1_0 : (⟨S300000, .i1⟩ : BufTy).Contents (Elt F) → (⟨S300000x1, .i1⟩ : BufTy).Contents (Elt F)),
    StableHlo.nullary main_cst_62 (constant S_ .f32 0x00000000#32),
    StableHlo.TRef.unary (.of main_cst_62 : StableHlo.TRef sig ⟨S_, .f32⟩) (.of main_call9_v0 : StableHlo.TRef sig ⟨S_, .f32⟩) id,
    StableHlo.TRef.unary (.of main_v144 : StableHlo.TRef sig ⟨S300000x1, .i1⟩) (.of main_call9_v1 : StableHlo.TRef sig ⟨S300000x5, .i1⟩) (broadcastInDim S300000x5 ![0, 1] bcast_S300000x1_S300000x5_0_1),
    StableHlo.TRef.unary (.of main_call9_v0 : StableHlo.TRef sig ⟨S_, .f32⟩) (.of main_call9_v2 : StableHlo.TRef sig ⟨S300000x5, .f32⟩) (broadcastInDim S300000x5 ![] bcast_S_S300000x5),
    StableHlo.TRef.ternary (.of main_call9_v1 : StableHlo.TRef sig ⟨S300000x5, .i1⟩) (.of main_v13 : StableHlo.TRef sig ⟨S300000x5, .f32⟩) (.of main_call9_v2 : StableHlo.TRef sig ⟨S300000x5, .f32⟩) (.of main_v145 : StableHlo.TRef sig ⟨S300000x5, .f32⟩) select,
    StableHlo.nullary main_c_63 (constantI S_ 32 0#32),
    StableHlo.unary main_c_63 main_v146 (broadcastInDim S300000 ![] bcast_S_S300000 : (⟨S_, .i32⟩ : BufTy).Contents (Elt F) → (⟨S300000, .i32⟩ : BufTy).Contents (Elt F)),
    StableHlo.binary main_v141 main_v146 main_v147 (cmpi .slt : (⟨S300000, .i32⟩ : BufTy).Contents (Elt F) → (⟨S300000, .i32⟩ : BufTy).Contents (Elt F) → (⟨S300000, .i1⟩ : BufTy).Contents (Elt F)),
    StableHlo.nullary main_c_64 (constantI S_ 32 30001#32),
    StableHlo.unary main_c_64 main_v148 (broadcastInDim S300000 ![] bcast_S_S300000 : (⟨S_, .i32⟩ : BufTy).Contents (Elt F) → (⟨S300000, .i32⟩ : BufTy).Contents (Elt F)),
    StableHlo.binary main_v141 main_v148 main_v149 (addi : (⟨S300000, .i32⟩ : BufTy).Contents (Elt F) → (⟨S300000, .i32⟩ : BufTy).Contents (Elt F) → (⟨S300000, .i32⟩ : BufTy).Contents (Elt F)),
    StableHlo.ternary main_v147 main_v149 main_v141 main_v150 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_65 (constantI S_ 32 0#32),
    StableHlo.unary main_c_65 main_v151 (broadcastInDim S300000 ![] bcast_S_S300000 : (⟨S_, .i32⟩ : BufTy).Contents (Elt F) → (⟨S300000, .i32⟩ : BufTy).Contents (Elt F)),
    StableHlo.binary main_v142 main_v151 main_v152 (cmpi .slt : (⟨S300000, .i32⟩ : BufTy).Contents (Elt F) → (⟨S300000, .i32⟩ : BufTy).Contents (Elt F) → (⟨S300000, .i1⟩ : BufTy).Contents (Elt F)),
    StableHlo.nullary main_c_66 (constantI S_ 32 20#32),
    StableHlo.unary main_c_66 main_v153 (broadcastInDim S300000 ![] bcast_S_S300000 : (⟨S_, .i32⟩ : BufTy).Contents (Elt F) → (⟨S300000, .i32⟩ : BufTy).Contents (Elt F)),
    StableHlo.binary main_v142 main_v153 main_v154 (addi : (⟨S300000, .i32⟩ : BufTy).Contents (Elt F) → (⟨S300000, .i32⟩ : BufTy).Contents (Elt F) → (⟨S300000, .i32⟩ : BufTy).Contents (Elt F)),
    StableHlo.ternary main_v152 main_v154 main_v142 main_v155 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v150 main_v156 (broadcastInDim S300000x1 ![0] bcast_S300000_S300000x1_0 : (⟨S300000, .i32⟩ : BufTy).Contents (Elt F) → (⟨S300000x1, .i32⟩ : BufTy).Contents (Elt F)),
    StableHlo.unary main_v155 main_v157 (broadcastInDim S300000x1 ![0] bcast_S300000_S300000x1_0 : (⟨S300000, .i32⟩ : BufTy).Contents (Elt F) → (⟨S300000x1, .i32⟩ : BufTy).Contents (Elt F)),
    StableHlo.binary main_v156 main_v157 main_v158 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v143 main_v158 main_v145 main_v159 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v159 main_v160 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v140 main_v161 ((extui 32 · natLt_1_32) : (⟨S300000, .i1⟩ : BufTy).Contents (Elt F) → (⟨S300000, .i32⟩ : BufTy).Contents (Elt F)),
    StableHlo.nullary main_c_67 (constantI S_ 32 0#32),
    StableHlo.unary main_c_67 main_v162 (broadcastInDim S30001 ![] bcast_S_S30001 : (⟨S_, .i32⟩ : BufTy).Contents (Elt F) → (⟨S30001, .i32⟩ : BufTy).Contents (Elt F)),
    StableHlo.unary main_v141 main_v163 (broadcastInDim S300000x1 ![0] bcast_S300000_S300000x1_0 : (⟨S300000, .i32⟩ : BufTy).Contents (Elt F) → (⟨S300000x1, .i32⟩ : BufTy).Contents (Elt F)),
    StableHlo.ternary main_v162 main_v163 main_v161 main_v164 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v164 main_v165 ((extractStridedSlice S30000 ![0] · slices_S30001_S30000_0) : (⟨S30001, .i32⟩ : BufTy).Contents (Elt F) → (⟨S30000, .i32⟩ : BufTy).Contents (Elt F)),
    StableHlo.nullary main_c_68 (constantI S_ 32 4294967295#32),
    StableHlo.unary main_c_68 main_v166 (broadcastInDim S30001 ![] bcast_S_S30001 : (⟨S_, .i32⟩ : BufTy).Contents (Elt F) → (⟨S30001, .i32⟩ : BufTy).Contents (Elt F)),
    StableHlo.nullary main_c_69 (constantI S_ 32 30000#32),
    StableHlo.unary main_c_69 main_v167 (broadcastInDim S300000 ![] bcast_S_S300000 : (⟨S_, .i32⟩ : BufTy).Contents (Elt F) → (⟨S300000, .i32⟩ : BufTy).Contents (Elt F)),
    StableHlo.binary main_v90 main_v167 main_v168 (cmpi .slt : (⟨S300000, .i32⟩ : BufTy).Contents (Elt F) → (⟨S300000, .i32⟩ : BufTy).Contents (Elt F) → (⟨S300000, .i1⟩ : BufTy).Contents (Elt F)),
    StableHlo.binary main_v86 main_v168 main_v169 (andi : (⟨S300000, .i1⟩ : BufTy).Contents (Elt F) → (⟨S300000, .i1⟩ : BufTy).Contents (Elt F) → (⟨S300000, .i1⟩ : BufTy).Contents (Elt F)),
    StableHlo.nullary main_c_70 (constantI S_ 32 30000#32),
    StableHlo.TRef.unary (.of main_c_70 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S300000, .i32⟩) (broadcastInDim S300000 ![] bcast_S_S300000),
    StableHlo.TRef.ternary (.of main_v169 : StableHlo.TRef sig ⟨S300000, .i1⟩) (.of main_v90 : StableHlo.TRef sig ⟨S300000, .i32⟩) (.of main_call10_v1 : StableHlo.TRef sig ⟨S300000, .i32⟩) (.of main_v170 : StableHlo.TRef sig ⟨S300000, .i32⟩) select,
    StableHlo.nullary main_c_71 (constantI S_ 32 30000#32),
    StableHlo.unary main_c_71 main_v171 (broadcastInDim S300000 ![] bcast_S_S300000 : (⟨S_, .i32⟩ : BufTy).Contents (Elt F) → (⟨S300000, .i32⟩ : BufTy).Contents (Elt F)),
    StableHlo.binary main_v90 main_v171 main_v172 (cmpi .slt : (⟨S300000, .i32⟩ : BufTy).Contents (Elt F) → (⟨S300000, .i32⟩ : BufTy).Contents (Elt F) → (⟨S300000, .i1⟩ : BufTy).Contents (Elt F)),
    StableHlo.binary main_v86 main_v172 main_v173 (andi : (⟨S300000, .i1⟩ : BufTy).Contents (Elt F) → (⟨S300000, .i1⟩ : BufTy).Contents (Elt F) → (⟨S300000, .i1⟩ : BufTy).Contents (Elt F)),
    StableHlo.nullary main_c_72 (constantI S_ 32 4294967295#32),
    StableHlo.TRef.unary (.of main_c_72 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S300000, .i32⟩) (broadcastInDim S300000 ![] bcast_S_S300000),
    StableHlo.TRef.ternary (.of main_v173 : StableHlo.TRef sig ⟨S300000, .i1⟩) (.of main_v66 : StableHlo.TRef sig ⟨S300000, .i32⟩) (.of main_call11_v1 : StableHlo.TRef sig ⟨S300000, .i32⟩) (.of main_v174 : StableHlo.TRef sig ⟨S300000, .i32⟩) select,
    StableHlo.nullary main_c_73 (constantI S_ 32 0#32),
    StableHlo.unary main_c_73 main_v175 (broadcastInDim S300000 ![] bcast_S_S300000 : (⟨S_, .i32⟩ : BufTy).Contents (Elt F) → (⟨S300000, .i32⟩ : BufTy).Contents (Elt F)),
    StableHlo.binary main_v170 main_v175 main_v176 (cmpi .slt : (⟨S300000, .i32⟩ : BufTy).Contents (Elt F) → (⟨S300000, .i32⟩ : BufTy).Contents (Elt F) → (⟨S300000, .i1⟩ : BufTy).Contents (Elt F)),
    StableHlo.nullary main_c_74 (constantI S_ 32 30001#32),
    StableHlo.unary main_c_74 main_v177 (broadcastInDim S300000 ![] bcast_S_S300000 : (⟨S_, .i32⟩ : BufTy).Contents (Elt F) → (⟨S300000, .i32⟩ : BufTy).Contents (Elt F)),
    StableHlo.binary main_v170 main_v177 main_v178 (addi : (⟨S300000, .i32⟩ : BufTy).Contents (Elt F) → (⟨S300000, .i32⟩ : BufTy).Contents (Elt F) → (⟨S300000, .i32⟩ : BufTy).Contents (Elt F)),
    StableHlo.ternary main_v176 main_v178 main_v170 main_v179 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v179 main_v180 (broadcastInDim S300000x1 ![0] bcast_S300000_S300000x1_0 : (⟨S300000, .i32⟩ : BufTy).Contents (Elt F) → (⟨S300000x1, .i32⟩ : BufTy).Contents (Elt F)),
    StableHlo.ternary main_v166 main_v180 main_v174 main_v181 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v181 main_v182 ((extractStridedSlice S30000 ![0] · slices_S30001_S30000_0) : (⟨S30001, .i32⟩ : BufTy).Contents (Elt F) → (⟨S30000, .i32⟩ : BufTy).Contents (Elt F)),
    StableHlo.nullary main_c_75 (constantI S_ 32 0#32),
    StableHlo.unary main_c_75 main_v183 (broadcastInDim S30000 ![] bcast_S_S30000 : (⟨S_, .i32⟩ : BufTy).Contents (Elt F) → (⟨S30000, .i32⟩ : BufTy).Contents (Elt F)),
    StableHlo.binary main_v182 main_v183 main_v184 (cmpi .sge : (⟨S30000, .i32⟩ : BufTy).Contents (Elt F) → (⟨S30000, .i32⟩ : BufTy).Contents (Elt F) → (⟨S30000, .i1⟩ : BufTy).Contents (Elt F)),
    StableHlo.nullary main_c_76 (constantI S_ 32 262144#32),
    StableHlo.TRef.unary (.of main_c_76 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S30000, .i32⟩) (broadcastInDim S30000 ![] bcast_S_S30000),
    StableHlo.TRef.binary (.of main_v182 : StableHlo.TRef sig ⟨S30000, .i32⟩) (.of main_call12_v1 : StableHlo.TRef sig ⟨S30000, .i32⟩) (.of main_call12_v2 : StableHlo.TRef sig ⟨S30000, .i32⟩) Host.divsi,
    StableHlo.TRef.unary (.of main_v182 : StableHlo.TRef sig ⟨S30000, .i32⟩) (.of main_call12_v3 : StableHlo.TRef sig ⟨S30000, .i32⟩) signi,
    StableHlo.TRef.unary (.of main_call12_v0 : StableHlo.TRef sig ⟨S_, .i32⟩) (.of main_call12_v4 : StableHlo.TRef sig ⟨S_, .i32⟩) signi,
    StableHlo.TRef.unary (.of main_call12_v4 : StableHlo.TRef sig ⟨S_, .i32⟩) (.of main_call12_v5 : StableHlo.TRef sig ⟨S30000, .i32⟩) (broadcastInDim S30000 ![] bcast_S_S30000),
    StableHlo.TRef.binary (.of main_call12_v3 : StableHlo.TRef sig ⟨S30000, .i32⟩) (.of main_call12_v5 : StableHlo.TRef sig ⟨S30000, .i32⟩) (.of main_call12_v6 : StableHlo.TRef sig ⟨S30000, .i1⟩) (cmpi .ne),
    StableHlo.TRef.unary (.of main_call12_v0 : StableHlo.TRef sig ⟨S_, .i32⟩) (.of main_call12_v7 : StableHlo.TRef sig ⟨S30000, .i32⟩) (broadcastInDim S30000 ![] bcast_S_S30000),
    StableHlo.TRef.binary (.of main_v182 : StableHlo.TRef sig ⟨S30000, .i32⟩) (.of main_call12_v7 : StableHlo.TRef sig ⟨S30000, .i32⟩) (.of main_call12_v8 : StableHlo.TRef sig ⟨S30000, .i32⟩) Host.remsi,
    StableHlo.TRef.nullary (.of main_call12_c : StableHlo.TRef sig ⟨S_, .i32⟩) (constantI S_ 32 0#32),
    StableHlo.TRef.unary (.of main_call12_c : StableHlo.TRef sig ⟨S_, .i32⟩) (.of main_call12_v9 : StableHlo.TRef sig ⟨S30000, .i32⟩) (broadcastInDim S30000 ![] bcast_S_S30000),
    StableHlo.TRef.binary (.of main_call12_v8 : StableHlo.TRef sig ⟨S30000, .i32⟩) (.of main_call12_v9 : StableHlo.TRef sig ⟨S30000, .i32⟩) (.of main_call12_v10 : StableHlo.TRef sig ⟨S30000, .i1⟩) (cmpi .ne),
    StableHlo.TRef.binary (.of main_call12_v6 : StableHlo.TRef sig ⟨S30000, .i1⟩) (.of main_call12_v10 : StableHlo.TRef sig ⟨S30000, .i1⟩) (.of main_call12_v11 : StableHlo.TRef sig ⟨S30000, .i1⟩) andi,
    StableHlo.TRef.nullary (.of main_call12_c_0 : StableHlo.TRef sig ⟨S_, .i32⟩) (constantI S_ 32 1#32),
    StableHlo.TRef.unary (.of main_call12_c_0 : StableHlo.TRef sig ⟨S_, .i32⟩) (.of main_call12_v12 : StableHlo.TRef sig ⟨S30000, .i32⟩) (broadcastInDim S30000 ![] bcast_S_S30000),
    StableHlo.TRef.binary (.of main_call12_v2 : StableHlo.TRef sig ⟨S30000, .i32⟩) (.of main_call12_v12 : StableHlo.TRef sig ⟨S30000, .i32⟩) (.of main_call12_v13 : StableHlo.TRef sig ⟨S30000, .i32⟩) subi,
    StableHlo.TRef.ternary (.of main_call12_v11 : StableHlo.TRef sig ⟨S30000, .i1⟩) (.of main_call12_v13 : StableHlo.TRef sig ⟨S30000, .i32⟩) (.of main_call12_v2 : StableHlo.TRef sig ⟨S30000, .i32⟩) (.of main_v185 : StableHlo.TRef sig ⟨S30000, .i32⟩) select,
    StableHlo.nullary main_c_77 (constantI S_ 32 4294967295#32),
    StableHlo.TRef.unary (.of main_c_77 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S30000, .i32⟩) (broadcastInDim S30000 ![] bcast_S_S30000),
    StableHlo.TRef.ternary (.of main_v184 : StableHlo.TRef sig ⟨S30000, .i1⟩) (.of main_v185 : StableHlo.TRef sig ⟨S30000, .i32⟩) (.of main_call13_v1 : StableHlo.TRef sig ⟨S30000, .i32⟩) (.of main_v186 : StableHlo.TRef sig ⟨S30000, .i32⟩) select,
    StableHlo.nullary main_c_78 (constantI S_ 32 0#32),
    StableHlo.unary main_c_78 main_v187 (broadcastInDim S30000 ![] bcast_S_S30000 : (⟨S_, .i32⟩ : BufTy).Contents (Elt F) → (⟨S30000, .i32⟩ : BufTy).Contents (Elt F)),
    StableHlo.binary main_v182 main_v187 main_v188 (cmpi .sge : (⟨S30000, .i32⟩ : BufTy).Contents (Elt F) → (⟨S30000, .i32⟩ : BufTy).Contents (Elt F) → (⟨S30000, .i1⟩ : BufTy).Contents (Elt F)),
    StableHlo.nullary main_c_79 (constantI S_ 32 512#32),
    StableHlo.TRef.unary (.of main_c_79 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S30000, .i32⟩) (broadcastInDim S30000 ![] bcast_S_S30000),
    StableHlo.TRef.binary (.of main_v182 : StableHlo.TRef sig ⟨S30000, .i32⟩) (.of main_call14_v1 : StableHlo.TRef sig ⟨S30000, .i32⟩) (.of main_call14_v2 : StableHlo.TRef sig ⟨S30000, .i32⟩) Host.divsi,
    StableHlo.TRef.unary (.of main_v182 : StableHlo.TRef sig ⟨S30000, .i32⟩) (.of main_call14_v3 : StableHlo.TRef sig ⟨S30000, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S30000, .i32⟩) (broadcastInDim S30000 ![] bcast_S_S30000),
    StableHlo.TRef.binary (.of main_call14_v3 : StableHlo.TRef sig ⟨S30000, .i32⟩) (.of main_call14_v5 : StableHlo.TRef sig ⟨S30000, .i32⟩) (.of main_call14_v6 : StableHlo.TRef sig ⟨S30000, .i1⟩) (cmpi .ne),
    StableHlo.TRef.unary (.of main_call14_v0 : StableHlo.TRef sig ⟨S_, .i32⟩) (.of main_call14_v7 : StableHlo.TRef sig ⟨S30000, .i32⟩) (broadcastInDim S30000 ![] bcast_S_S30000),
    StableHlo.TRef.binary (.of main_v182 : StableHlo.TRef sig ⟨S30000, .i32⟩) (.of main_call14_v7 : StableHlo.TRef sig ⟨S30000, .i32⟩) (.of main_call14_v8 : StableHlo.TRef sig ⟨S30000, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S30000, .i32⟩) (broadcastInDim S30000 ![] bcast_S_S30000),
    StableHlo.TRef.binary (.of main_call14_v8 : StableHlo.TRef sig ⟨S30000, .i32⟩) (.of main_call14_v9 : StableHlo.TRef sig ⟨S30000, .i32⟩) (.of main_call14_v10 : StableHlo.TRef sig ⟨S30000, .i1⟩) (cmpi .ne),
    StableHlo.TRef.binary (.of main_call14_v6 : StableHlo.TRef sig ⟨S30000, .i1⟩) (.of main_call14_v10 : StableHlo.TRef sig ⟨S30000, .i1⟩) (.of main_call14_v11 : StableHlo.TRef sig ⟨S30000, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S30000, .i32⟩) (broadcastInDim S30000 ![] bcast_S_S30000),
    StableHlo.TRef.binary (.of main_call14_v2 : StableHlo.TRef sig ⟨S30000, .i32⟩) (.of main_call14_v12 : StableHlo.TRef sig ⟨S30000, .i32⟩) (.of main_call14_v13 : StableHlo.TRef sig ⟨S30000, .i32⟩) subi,
    StableHlo.TRef.ternary (.of main_call14_v11 : StableHlo.TRef sig ⟨S30000, .i1⟩) (.of main_call14_v13 : StableHlo.TRef sig ⟨S30000, .i32⟩) (.of main_call14_v2 : StableHlo.TRef sig ⟨S30000, .i32⟩) (.of main_v189 : StableHlo.TRef sig ⟨S30000, .i32⟩) select,
    StableHlo.nullary main_c_80 (constantI S_ 32 512#32),
    StableHlo.TRef.unary (.of main_c_80 : StableHlo.TRef sig ⟨S_, .i32⟩) (.of main_call15_v0 : StableHlo.TRef sig ⟨S_, .i32⟩) id,
    StableHlo.TRef.nullary (.of main_call15_c : StableHlo.TRef sig ⟨S_, .i32⟩) (constantI S_ 32 0#32),
    StableHlo.TRef.binary (.of main_call15_v0 : StableHlo.TRef sig ⟨S_, .i32⟩) (.of main_call15_c : StableHlo.TRef sig ⟨S_, .i32⟩) (.of main_call15_v1 : StableHlo.TRef sig ⟨S_, .i1⟩) (cmpi .eq),
    StableHlo.TRef.nullary (.of main_call15_c_0 : StableHlo.TRef sig ⟨S_, .i32⟩) (constantI S_ 32 1#32),
    StableHlo.TRef.ternary (.of main_call15_v1 : StableHlo.TRef sig ⟨S_, .i1⟩) (.of main_call15_c_0 : StableHlo.TRef sig ⟨S_, .i32⟩) (.of main_call15_v0 : StableHlo.TRef sig ⟨S_, .i32⟩) (.of main_call15_v2 : StableHlo.TRef sig ⟨S_, .i32⟩) select,
    StableHlo.TRef.unary main_call15_call0.v0 (.of main_call15_v3 : StableHlo.TRef sig ⟨S30000, .i32⟩) (broadcastInDim S30000 ![] bcast_S_S30000),
    StableHlo.TRef.binary (.of main_v189 : StableHlo.TRef sig ⟨S30000, .i32⟩) (.of main_call15_v3 : StableHlo.TRef sig ⟨S30000, .i32⟩) (.of main_call15_v4 : StableHlo.TRef sig ⟨S30000, .i32⟩) Host.remsi,
    StableHlo.TRef.nullary (.of main_call15_c_1 : StableHlo.TRef sig ⟨S_, .i32⟩) (constantI S_ 32 0#32),
    StableHlo.TRef.unary (.of main_call15_c_1 : StableHlo.TRef sig ⟨S_, .i32⟩) (.of main_call15_v5 : StableHlo.TRef sig ⟨S30000, .i32⟩) (broadcastInDim S30000 ![] bcast_S_S30000),
    StableHlo.TRef.binary (.of main_call15_v4 : StableHlo.TRef sig ⟨S30000, .i32⟩) (.of main_call15_v5 : StableHlo.TRef sig ⟨S30000, .i32⟩) (.of main_call15_v6 : StableHlo.TRef sig ⟨S30000, .i1⟩) (cmpi .ne),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v7 : StableHlo.TRef sig ⟨S30000, .i32⟩) (broadcastInDim S30000 ![] bcast_S_S30000),
    StableHlo.TRef.binary (.of main_call15_v4 : StableHlo.TRef sig ⟨S30000, .i32⟩) (.of main_call15_v7 : StableHlo.TRef sig ⟨S30000, .i32⟩) (.of main_call15_v8 : StableHlo.TRef sig ⟨S30000, .i1⟩) (cmpi .slt),
    StableHlo.TRef.nullary (.of main_call15_c_3 : StableHlo.TRef sig ⟨S_, .i32⟩) (constantI S_ 32 0#32),
    StableHlo.TRef.binary main_call15_call0.v0 (.of main_call15_c_3 : StableHlo.TRef sig ⟨S_, .i32⟩) (.of main_call15_v9 : StableHlo.TRef sig ⟨S_, .i1⟩) (cmpi .slt),
    StableHlo.TRef.unary (.of main_call15_v9 : StableHlo.TRef sig ⟨S_, .i1⟩) (.of main_call15_v10 : StableHlo.TRef sig ⟨S30000, .i1⟩) (broadcastInDim S30000 ![] bcast_S_S30000),
    StableHlo.TRef.binary (.of main_call15_v8 : StableHlo.TRef sig ⟨S30000, .i1⟩) (.of main_call15_v10 : StableHlo.TRef sig ⟨S30000, .i1⟩) (.of main_call15_v11 : StableHlo.TRef sig ⟨S30000, .i1⟩) (cmpi .ne),
    StableHlo.TRef.binary (.of main_call15_v11 : StableHlo.TRef sig ⟨S30000, .i1⟩) (.of main_call15_v6 : StableHlo.TRef sig ⟨S30000, .i1⟩) (.of main_call15_v12 : StableHlo.TRef sig ⟨S30000, .i1⟩) andi,
    StableHlo.TRef.unary main_call15_call0.v0 (.of main_call15_v13 : StableHlo.TRef sig ⟨S30000, .i32⟩) (broadcastInDim S30000 ![] bcast_S_S30000),
    StableHlo.TRef.binary (.of main_call15_v4 : StableHlo.TRef sig ⟨S30000, .i32⟩) (.of main_call15_v13 : StableHlo.TRef sig ⟨S30000, .i32⟩) (.of main_call15_v14 : StableHlo.TRef sig ⟨S30000, .i32⟩) addi,
    StableHlo.TRef.ternary (.of main_call15_v12 : StableHlo.TRef sig ⟨S30000, .i1⟩) (.of main_call15_v14 : StableHlo.TRef sig ⟨S30000, .i32⟩) (.of main_call15_v4 : StableHlo.TRef sig ⟨S30000, .i32⟩) (.of main_v190 : StableHlo.TRef sig ⟨S30000, .i32⟩) select,
    StableHlo.nullary main_c_81 (constantI S_ 32 4294967295#32),
    StableHlo.TRef.unary (.of main_c_81 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S30000, .i32⟩) (broadcastInDim S30000 ![] bcast_S_S30000),
    StableHlo.TRef.ternary (.of main_v188 : StableHlo.TRef sig ⟨S30000, .i1⟩) (.of main_v190 : StableHlo.TRef sig ⟨S30000, .i32⟩) (.of main_call16_v1 : StableHlo.TRef sig ⟨S30000, .i32⟩) (.of main_v191 : StableHlo.TRef sig ⟨S30000, .i32⟩) select,
    StableHlo.nullary main_c_82 (constantI S_ 32 0#32),
    StableHlo.unary main_c_82 main_v192 (broadcastInDim S30000 ![] bcast_S_S30000 : (⟨S_, .i32⟩ : BufTy).Contents (Elt F) → (⟨S30000, .i32⟩ : BufTy).Contents (Elt F)),
    StableHlo.binary main_v182 main_v192 main_v193 (cmpi .sge : (⟨S30000, .i32⟩ : BufTy).Contents (Elt F) → (⟨S30000, .i32⟩ : BufTy).Contents (Elt F) → (⟨S30000, .i1⟩ : BufTy).Contents (Elt F)),
    StableHlo.nullary main_c_83 (constantI S_ 32 512#32),
    StableHlo.TRef.unary (.of main_c_83 : StableHlo.TRef sig ⟨S_, .i32⟩) (.of main_call17_v0 : StableHlo.TRef sig ⟨S_, .i32⟩) id,
    StableHlo.TRef.nullary (.of main_call17_c : StableHlo.TRef sig ⟨S_, .i32⟩) (constantI S_ 32 0#32),
    StableHlo.TRef.binary (.of main_call17_v0 : StableHlo.TRef sig ⟨S_, .i32⟩) (.of main_call17_c : StableHlo.TRef sig ⟨S_, .i32⟩) (.of main_call17_v1 : StableHlo.TRef sig ⟨S_, .i1⟩) (cmpi .eq),
    StableHlo.TRef.nullary (.of main_call17_c_0 : StableHlo.TRef sig ⟨S_, .i32⟩) (constantI S_ 32 1#32),
    StableHlo.TRef.ternary (.of main_call17_v1 : StableHlo.TRef sig ⟨S_, .i1⟩) (.of main_call17_c_0 : StableHlo.TRef sig ⟨S_, .i32⟩) (.of main_call17_v0 : StableHlo.TRef sig ⟨S_, .i32⟩) (.of main_call17_v2 : StableHlo.TRef sig ⟨S_, .i32⟩) select,
    StableHlo.TRef.unary main_call17_call0.v0 (.of main_call17_v3 : StableHlo.TRef sig ⟨S30000, .i32⟩) (broadcastInDim S30000 ![] bcast_S_S30000),
    StableHlo.TRef.binary (.of main_v182 : StableHlo.TRef sig ⟨S30000, .i32⟩) (.of main_call17_v3 : StableHlo.TRef sig ⟨S30000, .i32⟩) (.of main_call17_v4 : StableHlo.TRef sig ⟨S30000, .i32⟩) Host.remsi,
    StableHlo.TRef.nullary (.of main_call17_c_1 : StableHlo.TRef sig ⟨S_, .i32⟩) (constantI S_ 32 0#32),
    StableHlo.TRef.unary (.of main_call17_c_1 : StableHlo.TRef sig ⟨S_, .i32⟩) (.of main_call17_v5 : StableHlo.TRef sig ⟨S30000, .i32⟩) (broadcastInDim S30000 ![] bcast_S_S30000),
    StableHlo.TRef.binary (.of main_call17_v4 : StableHlo.TRef sig ⟨S30000, .i32⟩) (.of main_call17_v5 : StableHlo.TRef sig ⟨S30000, .i32⟩) (.of main_call17_v6 : StableHlo.TRef sig ⟨S30000, .i1⟩) (cmpi .ne),
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v7 : StableHlo.TRef sig ⟨S30000, .i32⟩) (broadcastInDim S30000 ![] bcast_S_S30000),
    StableHlo.TRef.binary (.of main_call17_v4 : StableHlo.TRef sig ⟨S30000, .i32⟩) (.of main_call17_v7 : StableHlo.TRef sig ⟨S30000, .i32⟩) (.of main_call17_v8 : StableHlo.TRef sig ⟨S30000, .i1⟩) (cmpi .slt),
    StableHlo.TRef.nullary (.of main_call17_c_3 : StableHlo.TRef sig ⟨S_, .i32⟩) (constantI S_ 32 0#32),
    StableHlo.TRef.binary main_call17_call0.v0 (.of main_call17_c_3 : StableHlo.TRef sig ⟨S_, .i32⟩) (.of main_call17_v9 : StableHlo.TRef sig ⟨S_, .i1⟩) (cmpi .slt),
    StableHlo.TRef.unary (.of main_call17_v9 : StableHlo.TRef sig ⟨S_, .i1⟩) (.of main_call17_v10 : StableHlo.TRef sig ⟨S30000, .i1⟩) (broadcastInDim S30000 ![] bcast_S_S30000),
    StableHlo.TRef.binary (.of main_call17_v8 : StableHlo.TRef sig ⟨S30000, .i1⟩) (.of main_call17_v10 : StableHlo.TRef sig ⟨S30000, .i1⟩) (.of main_call17_v11 : StableHlo.TRef sig ⟨S30000, .i1⟩) (cmpi .ne),
    StableHlo.TRef.binary (.of main_call17_v11 : StableHlo.TRef sig ⟨S30000, .i1⟩) (.of main_call17_v6 : StableHlo.TRef sig ⟨S30000, .i1⟩) (.of main_call17_v12 : StableHlo.TRef sig ⟨S30000, .i1⟩) andi,
    StableHlo.TRef.unary main_call17_call0.v0 (.of main_call17_v13 : StableHlo.TRef sig ⟨S30000, .i32⟩) (broadcastInDim S30000 ![] bcast_S_S30000),
    StableHlo.TRef.binary (.of main_call17_v4 : StableHlo.TRef sig ⟨S30000, .i32⟩) (.of main_call17_v13 : StableHlo.TRef sig ⟨S30000, .i32⟩) (.of main_call17_v14 : StableHlo.TRef sig ⟨S30000, .i32⟩) addi,
    StableHlo.TRef.ternary (.of main_call17_v12 : StableHlo.TRef sig ⟨S30000, .i1⟩) (.of main_call17_v14 : StableHlo.TRef sig ⟨S30000, .i32⟩) (.of main_call17_v4 : StableHlo.TRef sig ⟨S30000, .i32⟩) (.of main_v194 : StableHlo.TRef sig ⟨S30000, .i32⟩) select,
    StableHlo.nullary main_c_84 (constantI S_ 32 4294967295#32),
    StableHlo.TRef.unary (.of main_c_84 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S30000, .i32⟩) (broadcastInDim S30000 ![] bcast_S_S30000),
    StableHlo.TRef.ternary (.of main_v193 : StableHlo.TRef sig ⟨S30000, .i1⟩) (.of main_v194 : StableHlo.TRef sig ⟨S30000, .i32⟩) (.of main_call18_v1 : StableHlo.TRef sig ⟨S30000, .i32⟩) (.of main_v195 : StableHlo.TRef sig ⟨S30000, .i32⟩) select,
    StableHlo.unary main_v186 main_v196 (broadcastInDim S30000x1 ![0] bcast_S30000_S30000x1_0 : (⟨S30000, .i32⟩ : BufTy).Contents (Elt F) → (⟨S30000x1, .i32⟩ : BufTy).Contents (Elt F)),
    StableHlo.unary main_v191 main_v197 (broadcastInDim S30000x1 ![0] bcast_S30000_S30000x1_0 : (⟨S30000, .i32⟩ : BufTy).Contents (Elt F) → (⟨S30000x1, .i32⟩ : BufTy).Contents (Elt F)),
    StableHlo.unary main_v195 main_v198 (broadcastInDim S30000x1 ![0] bcast_S30000_S30000x1_0 : (⟨S30000, .i32⟩ : BufTy).Contents (Elt F) → (⟨S30000x1, .i32⟩ : BufTy).Contents (Elt F)),
    StableHlo.nary ![main_v196, main_v197, main_v198] main_v199 (fun u => concatenate S30000x3 1 [⟨S30000x1, u 0⟩, ⟨S30000x1, u 1⟩, ⟨S30000x1, u 2⟩] concatenates_S30000x1_S30000x1_S30000x1_S30000x3_d1),
    StableHlo.nullary main_c_85 (constantI S_ 32 0#32),
    StableHlo.unary main_c_85 main_v200 (broadcastInDim S30000x1 ![] bcast_S_S30000x1 : (⟨S_, .i32⟩ : BufTy).Contents (Elt F) → (⟨S30000x1, .i32⟩ : BufTy).Contents (Elt F)),
    StableHlo.binary main_v200 main_v199 main_v201 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- Batch 1: its row of cell ids sliced out, the validity mask recomputed from it, and everything downstream. -/
abbrev ks1 : List (HloOp τ sig (Elt F)) :=
  [ StableHlo.unary main_v64 main_v202 ((extractStridedSlice S1x300000 ![1, 0] · slices_S4x300000_S1x300000_1_0) : (⟨S4x300000, .i32⟩ : BufTy).Contents (Elt F) → (⟨S1x300000, .i32⟩ : BufTy).Contents (Elt F)),
    StableHlo.reshape main_v202 main_v203 rfl shapeCasts_S1x300000_S300000,
    StableHlo.nullary main_c_86 (constantI S_ 32 262144#32),
    StableHlo.unary main_c_86 main_v204 (broadcastInDim S300000 ![] bcast_S_S300000 : (⟨S_, .i32⟩ : BufTy).Contents (Elt F) → (⟨S300000, .i32⟩ : BufTy).Contents (Elt F)),
    StableHlo.binary main_v203 main_v204 main_v205 (cmpi .ne : (⟨S300000, .i32⟩ : BufTy).Contents (Elt F) → (⟨S300000, .i32⟩ : BufTy).Contents (Elt F) → (⟨S300000, .i1⟩ : BufTy).Contents (Elt F)),
    StableHlo.nullary main_v206 (iotaInDim S300000 32 0),
    StableHlo.nullary main_c_87 (constantI S_ 32 300000#32),
    StableHlo.unary main_c_87 main_v207 (broadcastInDim S262145 ![] bcast_S_S262145 : (⟨S_, .i32⟩ : BufTy).Contents (Elt F) → (⟨S262145, .i32⟩ : BufTy).Contents (Elt F)),
    StableHlo.nullary main_c_88 (constantI S_ 32 0#32),
    StableHlo.unary main_c_88 main_v208 (broadcastInDim S300000 ![] bcast_S_S300000 : (⟨S_, .i32⟩ : BufTy).Contents (Elt F) → (⟨S300000, .i32⟩ : BufTy).Contents (Elt F)),
    StableHlo.binary main_v203 main_v208 main_v209 (cmpi .slt : (⟨S300000, .i32⟩ : BufTy).Contents (Elt F) → (⟨S300000, .i32⟩ : BufTy).Contents (Elt F) → (⟨S300000, .i1⟩ : BufTy).Contents (Elt F)),
    StableHlo.nullary main_c_89 (constantI S_ 32 262145#32),
    StableHlo.unary main_c_89 main_v210 (broadcastInDim S300000 ![] bcast_S_S300000 : (⟨S_, .i32⟩ : BufTy).Contents (Elt F) → (⟨S300000, .i32⟩ : BufTy).Contents (Elt F)),
    StableHlo.binary main_v203 main_v210 main_v211 (addi : (⟨S300000, .i32⟩ : BufTy).Contents (Elt F) → (⟨S300000, .i32⟩ : BufTy).Contents (Elt F) → (⟨S300000, .i32⟩ : BufTy).Contents (Elt F)),
    StableHlo.ternary main_v209 main_v211 main_v203 main_v212 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v212 main_v213 (broadcastInDim S300000x1 ![0] bcast_S300000_S300000x1_0 : (⟨S300000, .i32⟩ : BufTy).Contents (Elt F) → (⟨S300000x1, .i32⟩ : BufTy).Contents (Elt F)),
    StableHlo.ternary main_v207 main_v213 main_v206 main_v214 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_90 (constantI S_ 32 0#32),
    StableHlo.unary main_c_90 main_v215 (broadcastInDim S300000 ![] bcast_S_S300000 : (⟨S_, .i32⟩ : BufTy).Contents (Elt F) → (⟨S300000, .i32⟩ : BufTy).Contents (Elt F)),
    StableHlo.binary main_v203 main_v215 main_v216 (cmpi .slt : (⟨S300000, .i32⟩ : BufTy).Contents (Elt F) → (⟨S300000, .i32⟩ : BufTy).Contents (Elt F) → (⟨S300000, .i1⟩ : BufTy).Contents (Elt F)),
    StableHlo.nullary main_c_91 (constantI S_ 32 262145#32),
    StableHlo.unary main_c_91 main_v217 (broadcastInDim S300000 ![] bcast_S_S300000 : (⟨S_, .i32⟩ : BufTy).Contents (Elt F) → (⟨S300000, .i32⟩ : BufTy).Contents (Elt F)),
    StableHlo.binary main_v203 main_v217 main_v218 (addi : (⟨S300000, .i32⟩ : BufTy).Contents (Elt F) → (⟨S300000, .i32⟩ : BufTy).Contents (Elt F) → (⟨S300000, .i32⟩ : BufTy).Contents (Elt F)),
    StableHlo.ternary main_v216 main_v218 main_v203 main_v219 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v219 main_v220 (broadcastInDim S300000x1 ![0] bcast_S300000_S300000x1_0 : (⟨S300000, .i32⟩ : BufTy).Contents (Elt F) → (⟨S300000x1, .i32⟩ : BufTy).Contents (Elt F)),
    StableHlo.binary main_v214 main_v220 main_v221 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v221 main_v206 main_v222 (cmpi .eq : (⟨S300000, .i32⟩ : BufTy).Contents (Elt F) → (⟨S300000, .i32⟩ : BufTy).Contents (Elt F) → (⟨S300000, .i1⟩ : BufTy).Contents (Elt F)),
    StableHlo.binary main_v205 main_v222 main_v223 (andi : (⟨S300000, .i1⟩ : BufTy).Contents (Elt F) → (⟨S300000, .i1⟩ : BufTy).Contents (Elt F) → (⟨S300000, .i1⟩ : BufTy).Contents (Elt F)),
    StableHlo.unary main_v223 main_v224 ((extui 32 · natLt_1_32) : (⟨S300000, .i1⟩ : BufTy).Contents (Elt F) → (⟨S300000, .i32⟩ : BufTy).Contents (Elt F)),
    StableHlo.TRef.nullary (.of main_call19_call0_c : StableHlo.TRef sig ⟨S_, .i32⟩) (constantI S_ 32 0#32),
    StableHlo.TRef.unary (.of main_call19_call0_c : StableHlo.TRef sig ⟨S_, .i32⟩) (.of main_call19_call0_v0 : StableHlo.TRef sig ⟨S_, .i32⟩) (broadcastInDim S_ ![] bcast_S_S_),
    StableHlo.TRef.binary (.of main_v224 : StableHlo.TRef sig ⟨S300000, .i32⟩) (.of main_call19_call0_v0 : StableHlo.TRef sig ⟨S_, .i32⟩) (.of main_v225 : StableHlo.TRef sig ⟨S300000, .i32⟩) (fun x v => Host.reduceWindow IntOp.addi ![300000] ![1] ![299999] ![0] x v reduceWindows_S300000_S300000_w300000s1p299999_0 h_S_),
    StableHlo.nullary main_c_92 (constantI S_ 32 1#32),
    StableHlo.unary main_c_92 main_v226 (broadcastInDim S300000 ![] bcast_S_S300000 : (⟨S_, .i32⟩ : BufTy).Contents (Elt F) → (⟨S300000, .i32⟩ : BufTy).Contents (Elt F)),
    StableHlo.binary main_v225 main_v226 main_v227 (subi : (⟨S300000, .i32⟩ : BufTy).Contents (Elt F) → (⟨S300000, .i32⟩ : BufTy).Contents (Elt F) → (⟨S300000, .i32⟩ : BufTy).Contents (Elt F)),
    StableHlo.nullary main_c_93 (constantI S_ 32 30000#32),
    StableHlo.unary main_c_93 main_v228 (broadcastInDim S262145 ![] bcast_S_S262145 : (⟨S_, .i32⟩ : BufTy).Contents (Elt F) → (⟨S262145, .i32⟩ : BufTy).Contents (Elt F)),
    StableHlo.nullary main_c_94 (constantI S_ 32 262144#32),
    StableHlo.TRef.unary (.of main_c_94 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S300000, .i32⟩) (broadcastInDim S300000 ![] bcast_S_S300000),
    StableHlo.TRef.ternary (.of main_v223 : StableHlo.TRef sig ⟨S300000, .i1⟩) (.of main_v203 : StableHlo.TRef sig ⟨S300000, .i32⟩) (.of main_call20_v1 : StableHlo.TRef sig ⟨S300000, .i32⟩) (.of main_v229 : StableHlo.TRef sig ⟨S300000, .i32⟩) select,
    StableHlo.nullary main_c_95 (constantI S_ 32 30000#32),
    StableHlo.unary main_c_95 main_v230 (broadcastInDim S300000 ![] bcast_S_S300000 : (⟨S_, .i32⟩ : BufTy).Contents (Elt F) → (⟨S300000, .i32⟩ : BufTy).Contents (Elt F)),
    StableHlo.binary main_v227 main_v230 main_v231 (minsi : (⟨S300000, .i32⟩ : BufTy).Contents (Elt F) → (⟨S300000, .i32⟩ : BufTy).Contents (Elt F) → (⟨S300000, .i32⟩ : BufTy).Contents (Elt F)),
    StableHlo.nullary main_c_96 (constantI S_ 32 30000#32),
    StableHlo.TRef.unary (.of main_c_96 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S300000, .i32⟩) (broadcastInDim S300000 ![] bcast_S_S300000),
    StableHlo.TRef.ternary (.of main_v223 : StableHlo.TRef sig ⟨S300000, .i1⟩) (.of main_v231 : StableHlo.TRef sig ⟨S300000, .i32⟩) (.of main_call21_v1 : StableHlo.TRef sig ⟨S300000, .i32⟩) (.of main_v232 : StableHlo.TRef sig ⟨S300000, .i32⟩) select,
    StableHlo.nullary main_c_97 (constantI S_ 32 0#32),
    StableHlo.unary main_c_97 main_v233 (broadcastInDim S300000 ![] bcast_S_S300000 : (⟨S_, .i32⟩ : BufTy).Contents (Elt F) → (⟨S300000, .i32⟩ : BufTy).Contents (Elt F)),
    StableHlo.binary main_v229 main_v233 main_v234 (cmpi .slt : (⟨S300000, .i32⟩ : BufTy).Contents (Elt F) → (⟨S300000, .i32⟩ : BufTy).Contents (Elt F) → (⟨S300000, .i1⟩ : BufTy).Contents (Elt F)),
    StableHlo.nullary main_c_98 (constantI S_ 32 262145#32),
    StableHlo.unary main_c_98 main_v235 (broadcastInDim S300000 ![] bcast_S_S300000 : (⟨S_, .i32⟩ : BufTy).Contents (Elt F) → (⟨S300000, .i32⟩ : BufTy).Contents (Elt F)),
    StableHlo.binary main_v229 main_v235 main_v236 (addi : (⟨S300000, .i32⟩ : BufTy).Contents (Elt F) → (⟨S300000, .i32⟩ : BufTy).Contents (Elt F) → (⟨S300000, .i32⟩ : BufTy).Contents (Elt F)),
    StableHlo.ternary main_v234 main_v236 main_v229 main_v237 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v237 main_v238 (broadcastInDim S300000x1 ![0] bcast_S300000_S300000x1_0 : (⟨S300000, .i32⟩ : BufTy).Contents (Elt F) → (⟨S300000x1, .i32⟩ : BufTy).Contents (Elt F)),
    StableHlo.ternary main_v228 main_v238 main_v232 main_v239 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_99 (constantI S_ 32 0#32),
    StableHlo.unary main_c_99 main_v240 (broadcastInDim S300000 ![] bcast_S_S300000 : (⟨S_, .i32⟩ : BufTy).Contents (Elt F) → (⟨S300000, .i32⟩ : BufTy).Contents (Elt F)),
    StableHlo.binary main_v203 main_v240 main_v241 (cmpi .slt : (⟨S300000, .i32⟩ : BufTy).Contents (Elt F) → (⟨S300000, .i32⟩ : BufTy).Contents (Elt F) → (⟨S300000, .i1⟩ : BufTy).Contents (Elt F)),
    StableHlo.nullary main_c_100 (constantI S_ 32 262145#32),
    StableHlo.unary main_c_100 main_v242 (broadcastInDim S300000 ![] bcast_S_S300000 : (⟨S_, .i32⟩ : BufTy).Contents (Elt F) → (⟨S300000, .i32⟩ : BufTy).Contents (Elt F)),
    StableHlo.binary main_v203 main_v242 main_v243 (addi : (⟨S300000, .i32⟩ : BufTy).Contents (Elt F) → (⟨S300000, .i32⟩ : BufTy).Contents (Elt F) → (⟨S300000, .i32⟩ : BufTy).Contents (Elt F)),
    StableHlo.ternary main_v241 main_v243 main_v203 main_v244 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v244 main_v245 (broadcastInDim S300000x1 ![0] bcast_S300000_S300000x1_0 : (⟨S300000, .i32⟩ : BufTy).Contents (Elt F) → (⟨S300000x1, .i32⟩ : BufTy).Contents (Elt F)),
    StableHlo.binary main_v239 main_v245 main_v246 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_101 (constantI S_ 32 30000#32),
    StableHlo.TRef.unary (.of main_c_101 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S300000, .i32⟩) (broadcastInDim S300000 ![] bcast_S_S300000),
    StableHlo.TRef.ternary (.of main_v205 : StableHlo.TRef sig ⟨S300000, .i1⟩) (.of main_v246 : StableHlo.TRef sig ⟨S300000, .i32⟩) (.of main_call22_v1 : StableHlo.TRef sig ⟨S300000, .i32⟩) (.of main_v247 : StableHlo.TRef sig ⟨S300000, .i32⟩) select,
    StableHlo.TRef.nullary (.of main_call23_v0 : StableHlo.TRef sig ⟨S300000, .i32⟩) (iotaInDim S300000 32 0),
    StableHlo.TRef.binary (.of main_v203 : StableHlo.TRef sig ⟨S300000, .i32⟩) (.of main_call23_v0 : StableHlo.TRef sig ⟨S300000, .i32⟩) (.of main_call23_v1_0 : StableHlo.TRef sig ⟨S300000, .i32⟩) (fun x y => (Host.sort2 S300000 0 comparator_i32_i32_d0 x y).1),
    StableHlo.TRef.binary (.of main_v203 : StableHlo.TRef sig ⟨S300000, .i32⟩) (.of main_call23_v0 : StableHlo.TRef sig ⟨S300000, .i32⟩) (.of main_v248 : StableHlo.TRef sig ⟨S300000, .i32⟩) (fun x y => (Host.sort2 S300000 0 comparator_i32_i32_d0 x y).2),
    StableHlo.nullary main_c_102 (constantI S_ 32 0#32),
    StableHlo.unary main_c_102 main_v249 (broadcastInDim S300000 ![] bcast_S_S300000 : (⟨S_, .i32⟩ : BufTy).Contents (Elt F) → (⟨S300000, .i32⟩ : BufTy).Contents (Elt F)),
    StableHlo.binary main_v248 main_v249 main_v250 (cmpi .slt : (⟨S300000, .i32⟩ : BufTy).Contents (Elt F) → (⟨S300000, .i32⟩ : BufTy).Contents (Elt F) → (⟨S300000, .i1⟩ : BufTy).Contents (Elt F)),
    StableHlo.nullary main_c_103 (constantI S_ 32 300000#32),
    StableHlo.unary main_c_103 main_v251 (broadcastInDim S300000 ![] bcast_S_S300000 : (⟨S_, .i32⟩ : BufTy).Contents (Elt F) → (⟨S300000, .i32⟩ : BufTy).Contents (Elt F)),
    StableHlo.binary main_v248 main_v251 main_v252 (addi : (⟨S300000, .i32⟩ : BufTy).Contents (Elt F) → (⟨S300000, .i32⟩ : BufTy).Contents (Elt F) → (⟨S300000, .i32⟩ : BufTy).Contents (Elt F)),
    StableHlo.ternary main_v250 main_v252 main_v248 main_v253 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v253 main_v254 (broadcastInDim S300000x1 ![0] bcast_S300000_S300000x1_0 : (⟨S300000, .i32⟩ : BufTy).Contents (Elt F) → (⟨S300000x1, .i32⟩ : BufTy).Contents (Elt F)),
    StableHlo.binary main_v203 main_v254 main_v255 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_104 (constantI S_ 1 1#1),
    StableHlo.unary main_c_104 main_v256 (broadcastInDim S1 ![] bcast_S_S1 : (⟨S_, .i1⟩ : BufTy).Contents (Elt F) → (⟨S1, .i1⟩ : BufTy).Contents (Elt F)),
    StableHlo.unary main_v255 main_v257 ((extractStridedSlice S299999 ![1] · slices_S300000_S299999_1) : (⟨S300000, .i32⟩ : BufTy).Contents (Elt F) → (⟨S299999, .i32⟩ : BufTy).Contents (Elt F)),
    StableHlo.unary main_v255 main_v258 ((extractStridedSlice S299999 ![0] · slices_S300000_S299999_0) : (⟨S300000, .i32⟩ : BufTy).Contents (Elt F) → (⟨S299999, .i32⟩ : BufTy).Contents (Elt F)),
    StableHlo.binary main_v257 main_v258 main_v259 (cmpi .ne : (⟨S299999, .i32⟩ : BufTy).Contents (Elt F) → (⟨S299999, .i32⟩ : BufTy).Contents (Elt F) → (⟨S299999, .i1⟩ : BufTy).Contents (Elt F)),
    StableHlo.binary main_v256 main_v259 main_v260 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_105 (constantI S_ 32 0#32),
    StableHlo.TRef.unary (.of main_c_105 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S300000, .i32⟩) (broadcastInDim S300000 ![] bcast_S_S300000),
    StableHlo.TRef.ternary (.of main_v260 : StableHlo.TRef sig ⟨S300000, .i1⟩) (.of main_v206 : StableHlo.TRef sig ⟨S300000, .i32⟩) (.of main_call24_v1 : StableHlo.TRef sig ⟨S300000, .i32⟩) (.of main_v261 : StableHlo.TRef sig ⟨S300000, .i32⟩) select,
    StableHlo.TRef.nullary (.of main_call25_c : StableHlo.TRef sig ⟨S_, .i32⟩) (constantI S_ 32 2147483648#32),
    StableHlo.TRef.unary (.of main_call25_c : StableHlo.TRef sig ⟨S_, .i32⟩) (.of main_call25_v0 : StableHlo.TRef sig ⟨S_, .i32⟩) (broadcastInDim S_ ![] bcast_S_S_),
    StableHlo.TRef.binary (.of main_v261 : StableHlo.TRef sig ⟨S300000, .i32⟩) (.of main_call25_v0 : StableHlo.TRef sig ⟨S_, .i32⟩) (.of main_v262 : StableHlo.TRef sig ⟨S300000, .i32⟩) (fun x v => Host.reduceWindow IntOp.maxsi ![300000] ![1] ![299999] ![0] x v reduceWindows_S300000_S300000_w300000s1p299999_0 h_S_),
    StableHlo.nullary main_c_106 (constantI S_ 32 0#32),
    StableHlo.unary main_c_106 main_v263 (broadcastInDim S300000 ![] bcast_S_S300000 : (⟨S_, .i32⟩ : BufTy).Contents (Elt F) → (⟨S300000, .i32⟩ : BufTy).Contents (Elt F)),
    StableHlo.binary main_v206 main_v262 main_v264 (subi : (⟨S300000, .i32⟩ : BufTy).Contents (Elt F) → (⟨S300000, .i32⟩ : BufTy).Contents (Elt F) → (⟨S300000, .i32⟩ : BufTy).Contents (Elt F)),
    StableHlo.nullary main_c_107 (constantI S_ 32 0#32),
    StableHlo.unary main_c_107 main_v265 (broadcastInDim S300000 ![] bcast_S_S300000 : (⟨S_, .i32⟩ : BufTy).Contents (Elt F) → (⟨S300000, .i32⟩ : BufTy).Contents (Elt F)),
    StableHlo.binary main_v248 main_v265 main_v266 (cmpi .slt : (⟨S300000, .i32⟩ : BufTy).Contents (Elt F) → (⟨S300000, .i32⟩ : BufTy).Contents (Elt F) → (⟨S300000, .i1⟩ : BufTy).Contents (Elt F)),
    StableHlo.nullary main_c_108 (constantI S_ 32 300000#32),
    StableHlo.unary main_c_108 main_v267 (broadcastInDim S300000 ![] bcast_S_S300000 : (⟨S_, .i32⟩ : BufTy).Contents (Elt F) → (⟨S300000, .i32⟩ : BufTy).Contents (Elt F)),
    StableHlo.binary main_v248 main_v267 main_v268 (addi : (⟨S300000, .i32⟩ : BufTy).Contents (Elt F) → (⟨S300000, .i32⟩ : BufTy).Contents (Elt F) → (⟨S300000, .i32⟩ : BufTy).Contents (Elt F)),
    StableHlo.ternary main_v266 main_v268 main_v248 main_v269 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v269 main_v270 (broadcastInDim S300000x1 ![0] bcast_S300000_S300000x1_0 : (⟨S300000, .i32⟩ : BufTy).Contents (Elt F) → (⟨S300000x1, .i32⟩ : BufTy).Contents (Elt F)),
    StableHlo.ternary main_v263 main_v270 main_v264 main_v271 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_109 (constantI S_ 32 30000#32),
    StableHlo.unary main_c_109 main_v272 (broadcastInDim S300000 ![] bcast_S_S300000 : (⟨S_, .i32⟩ : BufTy).Contents (Elt F) → (⟨S300000, .i32⟩ : BufTy).Contents (Elt F)),
    StableHlo.binary main_v247 main_v272 main_v273 (cmpi .slt : (⟨S300000, .i32⟩ : BufTy).Contents (Elt F) → (⟨S300000, .i32⟩ : BufTy).Contents (Elt F) → (⟨S300000, .i1⟩ : BufTy).Contents (Elt F)),
    StableHlo.binary main_v205 main_v273 main_v274 (andi : (⟨S300000, .i1⟩ : BufTy).Contents (Elt F) → (⟨S300000, .i1⟩ : BufTy).Contents (Elt F) → (⟨S300000, .i1⟩ : BufTy).Contents (Elt F)),
    StableHlo.nullary main_c_110 (constantI S_ 32 20#32),
    StableHlo.unary main_c_110 main_v275 (broadcastInDim S300000 ![] bcast_S_S300000 : (⟨S_, .i32⟩ : BufTy).Contents (Elt F) → (⟨S300000, .i32⟩ : BufTy).Contents (Elt F)),
    StableHlo.binary main_v271 main_v275 main_v276 (cmpi .slt : (⟨S300000, .i32⟩ : BufTy).Contents (Elt F) → (⟨S300000, .i32⟩ : BufTy).Contents (Elt F) → (⟨S300000, .i1⟩ : BufTy).Contents (Elt F)),
    StableHlo.binary main_v274 main_v276 main_v277 (andi : (⟨S300000, .i1⟩ : BufTy).Contents (Elt F) → (⟨S300000, .i1⟩ : BufTy).Contents (Elt F) → (⟨S300000, .i1⟩ : BufTy).Contents (Elt F)),
    StableHlo.nullary main_c_111 (constantI S_ 32 30000#32),
    StableHlo.TRef.unary (.of main_c_111 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S300000, .i32⟩) (broadcastInDim S300000 ![] bcast_S_S300000),
    StableHlo.TRef.ternary (.of main_v277 : StableHlo.TRef sig ⟨S300000, .i1⟩) (.of main_v247 : StableHlo.TRef sig ⟨S300000, .i32⟩) (.of main_call26_v1 : StableHlo.TRef sig ⟨S300000, .i32⟩) (.of main_v278 : StableHlo.TRef sig ⟨S300000, .i32⟩) select,
    StableHlo.nullary main_c_112 (constantI S_ 32 0#32),
    StableHlo.TRef.unary (.of main_c_112 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S300000, .i32⟩) (broadcastInDim S300000 ![] bcast_S_S300000),
    StableHlo.TRef.ternary (.of main_v277 : StableHlo.TRef sig ⟨S300000, .i1⟩) (.of main_v271 : StableHlo.TRef sig ⟨S300000, .i32⟩) (.of main_call27_v1 : StableHlo.TRef sig ⟨S300000, .i32⟩) (.of main_v279 : StableHlo.TRef sig ⟨S300000, .i32⟩) select,
    StableHlo.nullary main_cst_113 (constant S_ .f32 0x00000000#32),
    StableHlo.unary main_cst_113 main_v280 (broadcastInDim S30001x20x5 ![] bcast_S_S30001x20x5 : (⟨S_, .f32⟩ : BufTy).Contents (Elt F) → (⟨S30001x20x5, .f32⟩ : BufTy).Contents (Elt F)),
    StableHlo.unary main_v277 main_v281 (broadcastInDim S300000x1 ![0] bcast_S300000_S300000x1_0 : (⟨S300000, .i1⟩ : BufTy).Contents (Elt F) → (⟨S300000x1, .i1⟩ : BufTy).Contents (Elt F)),
    StableHlo.nullary main_cst_114 (constant S_ .f32 0x00000000#32),
    StableHlo.TRef.unary (.of main_cst_114 : StableHlo.TRef sig ⟨S_, .f32⟩) (.of main_call28_v0 : StableHlo.TRef sig ⟨S_, .f32⟩) id,
    StableHlo.TRef.unary (.of main_v281 : StableHlo.TRef sig ⟨S300000x1, .i1⟩) (.of main_call28_v1 : StableHlo.TRef sig ⟨S300000x5, .i1⟩) (broadcastInDim S300000x5 ![0, 1] bcast_S300000x1_S300000x5_0_1),
    StableHlo.TRef.unary (.of main_call28_v0 : StableHlo.TRef sig ⟨S_, .f32⟩) (.of main_call28_v2 : StableHlo.TRef sig ⟨S300000x5, .f32⟩) (broadcastInDim S300000x5 ![] bcast_S_S300000x5),
    StableHlo.TRef.ternary (.of main_call28_v1 : StableHlo.TRef sig ⟨S300000x5, .i1⟩) (.of main_v27 : StableHlo.TRef sig ⟨S300000x5, .f32⟩) (.of main_call28_v2 : StableHlo.TRef sig ⟨S300000x5, .f32⟩) (.of main_v282 : StableHlo.TRef sig ⟨S300000x5, .f32⟩) select,
    StableHlo.nullary main_c_115 (constantI S_ 32 0#32),
    StableHlo.unary main_c_115 main_v283 (broadcastInDim S300000 ![] bcast_S_S300000 : (⟨S_, .i32⟩ : BufTy).Contents (Elt F) → (⟨S300000, .i32⟩ : BufTy).Contents (Elt F)),
    StableHlo.binary main_v278 main_v283 main_v284 (cmpi .slt : (⟨S300000, .i32⟩ : BufTy).Contents (Elt F) → (⟨S300000, .i32⟩ : BufTy).Contents (Elt F) → (⟨S300000, .i1⟩ : BufTy).Contents (Elt F)),
    StableHlo.nullary main_c_116 (constantI S_ 32 30001#32),
    StableHlo.unary main_c_116 main_v285 (broadcastInDim S300000 ![] bcast_S_S300000 : (⟨S_, .i32⟩ : BufTy).Contents (Elt F) → (⟨S300000, .i32⟩ : BufTy).Contents (Elt F)),
    StableHlo.binary main_v278 main_v285 main_v286 (addi : (⟨S300000, .i32⟩ : BufTy).Contents (Elt F) → (⟨S300000, .i32⟩ : BufTy).Contents (Elt F) → (⟨S300000, .i32⟩ : BufTy).Contents (Elt F)),
    StableHlo.ternary main_v284 main_v286 main_v278 main_v287 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_117 (constantI S_ 32 0#32),
    StableHlo.unary main_c_117 main_v288 (broadcastInDim S300000 ![] bcast_S_S300000 : (⟨S_, .i32⟩ : BufTy).Contents (Elt F) → (⟨S300000, .i32⟩ : BufTy).Contents (Elt F)),
    StableHlo.binary main_v279 main_v288 main_v289 (cmpi .slt : (⟨S300000, .i32⟩ : BufTy).Contents (Elt F) → (⟨S300000, .i32⟩ : BufTy).Contents (Elt F) → (⟨S300000, .i1⟩ : BufTy).Contents (Elt F)),
    StableHlo.nullary main_c_118 (constantI S_ 32 20#32),
    StableHlo.unary main_c_118 main_v290 (broadcastInDim S300000 ![] bcast_S_S300000 : (⟨S_, .i32⟩ : BufTy).Contents (Elt F) → (⟨S300000, .i32⟩ : BufTy).Contents (Elt F)),
    StableHlo.binary main_v279 main_v290 main_v291 (addi : (⟨S300000, .i32⟩ : BufTy).Contents (Elt F) → (⟨S300000, .i32⟩ : BufTy).Contents (Elt F) → (⟨S300000, .i32⟩ : BufTy).Contents (Elt F)),
    StableHlo.ternary main_v289 main_v291 main_v279 main_v292 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v287 main_v293 (broadcastInDim S300000x1 ![0] bcast_S300000_S300000x1_0 : (⟨S300000, .i32⟩ : BufTy).Contents (Elt F) → (⟨S300000x1, .i32⟩ : BufTy).Contents (Elt F)),
    StableHlo.unary main_v292 main_v294 (broadcastInDim S300000x1 ![0] bcast_S300000_S300000x1_0 : (⟨S300000, .i32⟩ : BufTy).Contents (Elt F) → (⟨S300000x1, .i32⟩ : BufTy).Contents (Elt F)),
    StableHlo.binary main_v293 main_v294 main_v295 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v280 main_v295 main_v282 main_v296 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v296 main_v297 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v277 main_v298 ((extui 32 · natLt_1_32) : (⟨S300000, .i1⟩ : BufTy).Contents (Elt F) → (⟨S300000, .i32⟩ : BufTy).Contents (Elt F)),
    StableHlo.nullary main_c_119 (constantI S_ 32 0#32),
    StableHlo.unary main_c_119 main_v299 (broadcastInDim S30001 ![] bcast_S_S30001 : (⟨S_, .i32⟩ : BufTy).Contents (Elt F) → (⟨S30001, .i32⟩ : BufTy).Contents (Elt F)),
    StableHlo.unary main_v278 main_v300 (broadcastInDim S300000x1 ![0] bcast_S300000_S300000x1_0 : (⟨S300000, .i32⟩ : BufTy).Contents (Elt F) → (⟨S300000x1, .i32⟩ : BufTy).Contents (Elt F)),
    StableHlo.ternary main_v299 main_v300 main_v298 main_v301 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v301 main_v302 ((extractStridedSlice S30000 ![0] · slices_S30001_S30000_0) : (⟨S30001, .i32⟩ : BufTy).Contents (Elt F) → (⟨S30000, .i32⟩ : BufTy).Contents (Elt F)),
    StableHlo.nullary main_c_120 (constantI S_ 32 4294967295#32),
    StableHlo.unary main_c_120 main_v303 (broadcastInDim S30001 ![] bcast_S_S30001 : (⟨S_, .i32⟩ : BufTy).Contents (Elt F) → (⟨S30001, .i32⟩ : BufTy).Contents (Elt F)),
    StableHlo.nullary main_c_121 (constantI S_ 32 30000#32),
    StableHlo.unary main_c_121 main_v304 (broadcastInDim S300000 ![] bcast_S_S300000 : (⟨S_, .i32⟩ : BufTy).Contents (Elt F) → (⟨S300000, .i32⟩ : BufTy).Contents (Elt F)),
    StableHlo.binary main_v227 main_v304 main_v305 (cmpi .slt : (⟨S300000, .i32⟩ : BufTy).Contents (Elt F) → (⟨S300000, .i32⟩ : BufTy).Contents (Elt F) → (⟨S300000, .i1⟩ : BufTy).Contents (Elt F)),
    StableHlo.binary main_v223 main_v305 main_v306 (andi : (⟨S300000, .i1⟩ : BufTy).Contents (Elt F) → (⟨S300000, .i1⟩ : BufTy).Contents (Elt F) → (⟨S300000, .i1⟩ : BufTy).Contents (Elt F)),
    StableHlo.nullary main_c_122 (constantI S_ 32 30000#32),
    StableHlo.TRef.unary (.of main_c_122 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S300000, .i32⟩) (broadcastInDim S300000 ![] bcast_S_S300000),
    StableHlo.TRef.ternary (.of main_v306 : StableHlo.TRef sig ⟨S300000, .i1⟩) (.of main_v227 : StableHlo.TRef sig ⟨S300000, .i32⟩) (.of main_call29_v1 : StableHlo.TRef sig ⟨S300000, .i32⟩) (.of main_v307 : StableHlo.TRef sig ⟨S300000, .i32⟩) select,
    StableHlo.nullary main_c_123 (constantI S_ 32 30000#32),
    StableHlo.unary main_c_123 main_v308 (broadcastInDim S300000 ![] bcast_S_S300000 : (⟨S_, .i32⟩ : BufTy).Contents (Elt F) → (⟨S300000, .i32⟩ : BufTy).Contents (Elt F)),
    StableHlo.binary main_v227 main_v308 main_v309 (cmpi .slt : (⟨S300000, .i32⟩ : BufTy).Contents (Elt F) → (⟨S300000, .i32⟩ : BufTy).Contents (Elt F) → (⟨S300000, .i1⟩ : BufTy).Contents (Elt F)),
    StableHlo.binary main_v223 main_v309 main_v310 (andi : (⟨S300000, .i1⟩ : BufTy).Contents (Elt F) → (⟨S300000, .i1⟩ : BufTy).Contents (Elt F) → (⟨S300000, .i1⟩ : BufTy).Contents (Elt F)),
    StableHlo.nullary main_c_124 (constantI S_ 32 4294967295#32),
    StableHlo.TRef.unary (.of main_c_124 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S300000, .i32⟩) (broadcastInDim S300000 ![] bcast_S_S300000),
    StableHlo.TRef.ternary (.of main_v310 : StableHlo.TRef sig ⟨S300000, .i1⟩) (.of main_v203 : StableHlo.TRef sig ⟨S300000, .i32⟩) (.of main_call30_v1 : StableHlo.TRef sig ⟨S300000, .i32⟩) (.of main_v311 : StableHlo.TRef sig ⟨S300000, .i32⟩) select,
    StableHlo.nullary main_c_125 (constantI S_ 32 0#32),
    StableHlo.unary main_c_125 main_v312 (broadcastInDim S300000 ![] bcast_S_S300000 : (⟨S_, .i32⟩ : BufTy).Contents (Elt F) → (⟨S300000, .i32⟩ : BufTy).Contents (Elt F)),
    StableHlo.binary main_v307 main_v312 main_v313 (cmpi .slt : (⟨S300000, .i32⟩ : BufTy).Contents (Elt F) → (⟨S300000, .i32⟩ : BufTy).Contents (Elt F) → (⟨S300000, .i1⟩ : BufTy).Contents (Elt F)),
    StableHlo.nullary main_c_126 (constantI S_ 32 30001#32),
    StableHlo.unary main_c_126 main_v314 (broadcastInDim S300000 ![] bcast_S_S300000 : (⟨S_, .i32⟩ : BufTy).Contents (Elt F) → (⟨S300000, .i32⟩ : BufTy).Contents (Elt F)),
    StableHlo.binary main_v307 main_v314 main_v315 (addi : (⟨S300000, .i32⟩ : BufTy).Contents (Elt F) → (⟨S300000, .i32⟩ : BufTy).Contents (Elt F) → (⟨S300000, .i32⟩ : BufTy).Contents (Elt F)),
    StableHlo.ternary main_v313 main_v315 main_v307 main_v316 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v316 main_v317 (broadcastInDim S300000x1 ![0] bcast_S300000_S300000x1_0 : (⟨S300000, .i32⟩ : BufTy).Contents (Elt F) → (⟨S300000x1, .i32⟩ : BufTy).Contents (Elt F)),
    StableHlo.ternary main_v303 main_v317 main_v311 main_v318 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v318 main_v319 ((extractStridedSlice S30000 ![0] · slices_S30001_S30000_0) : (⟨S30001, .i32⟩ : BufTy).Contents (Elt F) → (⟨S30000, .i32⟩ : BufTy).Contents (Elt F)),
    StableHlo.nullary main_c_127 (constantI S_ 32 0#32),
    StableHlo.unary main_c_127 main_v320 (broadcastInDim S30000 ![] bcast_S_S30000 : (⟨S_, .i32⟩ : BufTy).Contents (Elt F) → (⟨S30000, .i32⟩ : BufTy).Contents (Elt F)),
    StableHlo.binary main_v319 main_v320 main_v321 (cmpi .sge : (⟨S30000, .i32⟩ : BufTy).Contents (Elt F) → (⟨S30000, .i32⟩ : BufTy).Contents (Elt F) → (⟨S30000, .i1⟩ : BufTy).Contents (Elt F)),
    StableHlo.nullary main_c_128 (constantI S_ 32 262144#32),
    StableHlo.TRef.unary (.of main_c_128 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S30000, .i32⟩) (broadcastInDim S30000 ![] bcast_S_S30000),
    StableHlo.TRef.binary (.of main_v319 : StableHlo.TRef sig ⟨S30000, .i32⟩) (.of main_call31_v1 : StableHlo.TRef sig ⟨S30000, .i32⟩) (.of main_call31_v2 : StableHlo.TRef sig ⟨S30000, .i32⟩) Host.divsi,
    StableHlo.TRef.unary (.of main_v319 : StableHlo.TRef sig ⟨S30000, .i32⟩) (.of main_call31_v3 : StableHlo.TRef sig ⟨S30000, .i32⟩) signi,
    StableHlo.TRef.unary (.of main_call31_v0 : StableHlo.TRef sig ⟨S_, .i32⟩) (.of main_call31_v4 : StableHlo.TRef sig ⟨S_, .i32⟩) signi,
    StableHlo.TRef.unary (.of main_call31_v4 : StableHlo.TRef sig ⟨S_, .i32⟩) (.of main_call31_v5 : StableHlo.TRef sig ⟨S30000, .i32⟩) (broadcastInDim S30000 ![] bcast_S_S30000),
    StableHlo.TRef.binary (.of main_call31_v3 : StableHlo.TRef sig ⟨S30000, .i32⟩) (.of main_call31_v5 : StableHlo.TRef sig ⟨S30000, .i32⟩) (.of main_call31_v6 : StableHlo.TRef sig ⟨S30000, .i1⟩) (cmpi .ne),
    StableHlo.TRef.unary (.of main_call31_v0 : StableHlo.TRef sig ⟨S_, .i32⟩) (.of main_call31_v7 : StableHlo.TRef sig ⟨S30000, .i32⟩) (broadcastInDim S30000 ![] bcast_S_S30000),
    StableHlo.TRef.binary (.of main_v319 : StableHlo.TRef sig ⟨S30000, .i32⟩) (.of main_call31_v7 : StableHlo.TRef sig ⟨S30000, .i32⟩) (.of main_call31_v8 : StableHlo.TRef sig ⟨S30000, .i32⟩) Host.remsi,
    StableHlo.TRef.nullary (.of main_call31_c : StableHlo.TRef sig ⟨S_, .i32⟩) (constantI S_ 32 0#32),
    StableHlo.TRef.unary (.of main_call31_c : StableHlo.TRef sig ⟨S_, .i32⟩) (.of main_call31_v9 : StableHlo.TRef sig ⟨S30000, .i32⟩) (broadcastInDim S30000 ![] bcast_S_S30000),
    StableHlo.TRef.binary (.of main_call31_v8 : StableHlo.TRef sig ⟨S30000, .i32⟩) (.of main_call31_v9 : StableHlo.TRef sig ⟨S30000, .i32⟩) (.of main_call31_v10 : StableHlo.TRef sig ⟨S30000, .i1⟩) (cmpi .ne),
    StableHlo.TRef.binary (.of main_call31_v6 : StableHlo.TRef sig ⟨S30000, .i1⟩) (.of main_call31_v10 : StableHlo.TRef sig ⟨S30000, .i1⟩) (.of main_call31_v11 : StableHlo.TRef sig ⟨S30000, .i1⟩) andi,
    StableHlo.TRef.nullary (.of main_call31_c_0 : StableHlo.TRef sig ⟨S_, .i32⟩) (constantI S_ 32 1#32),
    StableHlo.TRef.unary (.of main_call31_c_0 : StableHlo.TRef sig ⟨S_, .i32⟩) (.of main_call31_v12 : StableHlo.TRef sig ⟨S30000, .i32⟩) (broadcastInDim S30000 ![] bcast_S_S30000),
    StableHlo.TRef.binary (.of main_call31_v2 : StableHlo.TRef sig ⟨S30000, .i32⟩) (.of main_call31_v12 : StableHlo.TRef sig ⟨S30000, .i32⟩) (.of main_call31_v13 : StableHlo.TRef sig ⟨S30000, .i32⟩) subi,
    StableHlo.TRef.ternary (.of main_call31_v11 : StableHlo.TRef sig ⟨S30000, .i1⟩) (.of main_call31_v13 : StableHlo.TRef sig ⟨S30000, .i32⟩) (.of main_call31_v2 : StableHlo.TRef sig ⟨S30000, .i32⟩) (.of main_v322 : StableHlo.TRef sig ⟨S30000, .i32⟩) select,
    StableHlo.nullary main_c_129 (constantI S_ 32 4294967295#32),
    StableHlo.TRef.unary (.of main_c_129 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S30000, .i32⟩) (broadcastInDim S30000 ![] bcast_S_S30000),
    StableHlo.TRef.ternary (.of main_v321 : StableHlo.TRef sig ⟨S30000, .i1⟩) (.of main_v322 : StableHlo.TRef sig ⟨S30000, .i32⟩) (.of main_call32_v1 : StableHlo.TRef sig ⟨S30000, .i32⟩) (.of main_v323 : StableHlo.TRef sig ⟨S30000, .i32⟩) select,
    StableHlo.nullary main_c_130 (constantI S_ 32 0#32),
    StableHlo.unary main_c_130 main_v324 (broadcastInDim S30000 ![] bcast_S_S30000 : (⟨S_, .i32⟩ : BufTy).Contents (Elt F) → (⟨S30000, .i32⟩ : BufTy).Contents (Elt F)),
    StableHlo.binary main_v319 main_v324 main_v325 (cmpi .sge : (⟨S30000, .i32⟩ : BufTy).Contents (Elt F) → (⟨S30000, .i32⟩ : BufTy).Contents (Elt F) → (⟨S30000, .i1⟩ : BufTy).Contents (Elt F)),
    StableHlo.nullary main_c_131 (constantI S_ 32 512#32),
    StableHlo.TRef.unary (.of main_c_131 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S30000, .i32⟩) (broadcastInDim S30000 ![] bcast_S_S30000),
    StableHlo.TRef.binary (.of main_v319 : StableHlo.TRef sig ⟨S30000, .i32⟩) (.of main_call33_v1 : StableHlo.TRef sig ⟨S30000, .i32⟩) (.of main_call33_v2 : StableHlo.TRef sig ⟨S30000, .i32⟩) Host.divsi,
    StableHlo.TRef.unary (.of main_v319 : StableHlo.TRef sig ⟨S30000, .i32⟩) (.of main_call33_v3 : StableHlo.TRef sig ⟨S30000, .i32⟩) signi,
    StableHlo.TRef.unary (.of main_call33_v0 : StableHlo.TRef sig ⟨S_, .i32⟩) (.of main_call33_v4 : StableHlo.TRef sig ⟨S_, .i32⟩) signi,
    StableHlo.TRef.unary (.of main_call33_v4 : StableHlo.TRef sig ⟨S_, .i32⟩) (.of main_call33_v5 : StableHlo.TRef sig ⟨S30000, .i32⟩) (broadcastInDim S30000 ![] bcast_S_S30000),
    StableHlo.TRef.binary (.of main_call33_v3 : StableHlo.TRef sig ⟨S30000, .i32⟩) (.of main_call33_v5 : StableHlo.TRef sig ⟨S30000, .i32⟩) (.of main_call33_v6 : StableHlo.TRef sig ⟨S30000, .i1⟩) (cmpi .ne),
    StableHlo.TRef.unary (.of main_call33_v0 : StableHlo.TRef sig ⟨S_, .i32⟩) (.of main_call33_v7 : StableHlo.TRef sig ⟨S30000, .i32⟩) (broadcastInDim S30000 ![] bcast_S_S30000),
    StableHlo.TRef.binary (.of main_v319 : StableHlo.TRef sig ⟨S30000, .i32⟩) (.of main_call33_v7 : StableHlo.TRef sig ⟨S30000, .i32⟩) (.of main_call33_v8 : StableHlo.TRef sig ⟨S30000, .i32⟩) Host.remsi,
    StableHlo.TRef.nullary (.of main_call33_c : StableHlo.TRef sig ⟨S_, .i32⟩) (constantI S_ 32 0#32),
    StableHlo.TRef.unary (.of main_call33_c : StableHlo.TRef sig ⟨S_, .i32⟩) (.of main_call33_v9 : StableHlo.TRef sig ⟨S30000, .i32⟩) (broadcastInDim S30000 ![] bcast_S_S30000),
    StableHlo.TRef.binary (.of main_call33_v8 : StableHlo.TRef sig ⟨S30000, .i32⟩) (.of main_call33_v9 : StableHlo.TRef sig ⟨S30000, .i32⟩) (.of main_call33_v10 : StableHlo.TRef sig ⟨S30000, .i1⟩) (cmpi .ne),
    StableHlo.TRef.binary (.of main_call33_v6 : StableHlo.TRef sig ⟨S30000, .i1⟩) (.of main_call33_v10 : StableHlo.TRef sig ⟨S30000, .i1⟩) (.of main_call33_v11 : StableHlo.TRef sig ⟨S30000, .i1⟩) andi,
    StableHlo.TRef.nullary (.of main_call33_c_0 : StableHlo.TRef sig ⟨S_, .i32⟩) (constantI S_ 32 1#32),
    StableHlo.TRef.unary (.of main_call33_c_0 : StableHlo.TRef sig ⟨S_, .i32⟩) (.of main_call33_v12 : StableHlo.TRef sig ⟨S30000, .i32⟩) (broadcastInDim S30000 ![] bcast_S_S30000),
    StableHlo.TRef.binary (.of main_call33_v2 : StableHlo.TRef sig ⟨S30000, .i32⟩) (.of main_call33_v12 : StableHlo.TRef sig ⟨S30000, .i32⟩) (.of main_call33_v13 : StableHlo.TRef sig ⟨S30000, .i32⟩) subi,
    StableHlo.TRef.ternary (.of main_call33_v11 : StableHlo.TRef sig ⟨S30000, .i1⟩) (.of main_call33_v13 : StableHlo.TRef sig ⟨S30000, .i32⟩) (.of main_call33_v2 : StableHlo.TRef sig ⟨S30000, .i32⟩) (.of main_v326 : StableHlo.TRef sig ⟨S30000, .i32⟩) select,
    StableHlo.nullary main_c_132 (constantI S_ 32 512#32),
    StableHlo.TRef.unary (.of main_c_132 : StableHlo.TRef sig ⟨S_, .i32⟩) (.of main_call34_v0 : StableHlo.TRef sig ⟨S_, .i32⟩) id,
    StableHlo.TRef.nullary (.of main_call34_c : StableHlo.TRef sig ⟨S_, .i32⟩) (constantI S_ 32 0#32),
    StableHlo.TRef.binary (.of main_call34_v0 : StableHlo.TRef sig ⟨S_, .i32⟩) (.of main_call34_c : StableHlo.TRef sig ⟨S_, .i32⟩) (.of main_call34_v1 : StableHlo.TRef sig ⟨S_, .i1⟩) (cmpi .eq),
    StableHlo.TRef.nullary (.of main_call34_c_0 : StableHlo.TRef sig ⟨S_, .i32⟩) (constantI S_ 32 1#32),
    StableHlo.TRef.ternary (.of main_call34_v1 : StableHlo.TRef sig ⟨S_, .i1⟩) (.of main_call34_c_0 : StableHlo.TRef sig ⟨S_, .i32⟩) (.of main_call34_v0 : StableHlo.TRef sig ⟨S_, .i32⟩) (.of main_call34_v2 : StableHlo.TRef sig ⟨S_, .i32⟩) select,
    StableHlo.TRef.unary main_call34_call0.v0 (.of main_call34_v3 : StableHlo.TRef sig ⟨S30000, .i32⟩) (broadcastInDim S30000 ![] bcast_S_S30000),
    StableHlo.TRef.binary (.of main_v326 : StableHlo.TRef sig ⟨S30000, .i32⟩) (.of main_call34_v3 : StableHlo.TRef sig ⟨S30000, .i32⟩) (.of main_call34_v4 : StableHlo.TRef sig ⟨S30000, .i32⟩) Host.remsi,
    StableHlo.TRef.nullary (.of main_call34_c_1 : StableHlo.TRef sig ⟨S_, .i32⟩) (constantI S_ 32 0#32),
    StableHlo.TRef.unary (.of main_call34_c_1 : StableHlo.TRef sig ⟨S_, .i32⟩) (.of main_call34_v5 : StableHlo.TRef sig ⟨S30000, .i32⟩) (broadcastInDim S30000 ![] bcast_S_S30000),
    StableHlo.TRef.binary (.of main_call34_v4 : StableHlo.TRef sig ⟨S30000, .i32⟩) (.of main_call34_v5 : StableHlo.TRef sig ⟨S30000, .i32⟩) (.of main_call34_v6 : StableHlo.TRef sig ⟨S30000, .i1⟩) (cmpi .ne),
    StableHlo.TRef.nullary (.of main_call34_c_2 : StableHlo.TRef sig ⟨S_, .i32⟩) (constantI S_ 32 0#32),
    StableHlo.TRef.unary (.of main_call34_c_2 : StableHlo.TRef sig ⟨S_, .i32⟩) (.of main_call34_v7 : StableHlo.TRef sig ⟨S30000, .i32⟩) (broadcastInDim S30000 ![] bcast_S_S30000),
    StableHlo.TRef.binary (.of main_call34_v4 : StableHlo.TRef sig ⟨S30000, .i32⟩) (.of main_call34_v7 : StableHlo.TRef sig ⟨S30000, .i32⟩) (.of main_call34_v8 : StableHlo.TRef sig ⟨S30000, .i1⟩) (cmpi .slt),
    StableHlo.TRef.nullary (.of main_call34_c_3 : StableHlo.TRef sig ⟨S_, .i32⟩) (constantI S_ 32 0#32),
    StableHlo.TRef.binary main_call34_call0.v0 (.of main_call34_c_3 : StableHlo.TRef sig ⟨S_, .i32⟩) (.of main_call34_v9 : StableHlo.TRef sig ⟨S_, .i1⟩) (cmpi .slt),
    StableHlo.TRef.unary (.of main_call34_v9 : StableHlo.TRef sig ⟨S_, .i1⟩) (.of main_call34_v10 : StableHlo.TRef sig ⟨S30000, .i1⟩) (broadcastInDim S30000 ![] bcast_S_S30000),
    StableHlo.TRef.binary (.of main_call34_v8 : StableHlo.TRef sig ⟨S30000, .i1⟩) (.of main_call34_v10 : StableHlo.TRef sig ⟨S30000, .i1⟩) (.of main_call34_v11 : StableHlo.TRef sig ⟨S30000, .i1⟩) (cmpi .ne),
    StableHlo.TRef.binary (.of main_call34_v11 : StableHlo.TRef sig ⟨S30000, .i1⟩) (.of main_call34_v6 : StableHlo.TRef sig ⟨S30000, .i1⟩) (.of main_call34_v12 : StableHlo.TRef sig ⟨S30000, .i1⟩) andi,
    StableHlo.TRef.unary main_call34_call0.v0 (.of main_call34_v13 : StableHlo.TRef sig ⟨S30000, .i32⟩) (broadcastInDim S30000 ![] bcast_S_S30000),
    StableHlo.TRef.binary (.of main_call34_v4 : StableHlo.TRef sig ⟨S30000, .i32⟩) (.of main_call34_v13 : StableHlo.TRef sig ⟨S30000, .i32⟩) (.of main_call34_v14 : StableHlo.TRef sig ⟨S30000, .i32⟩) addi,
    StableHlo.TRef.ternary (.of main_call34_v12 : StableHlo.TRef sig ⟨S30000, .i1⟩) (.of main_call34_v14 : StableHlo.TRef sig ⟨S30000, .i32⟩) (.of main_call34_v4 : StableHlo.TRef sig ⟨S30000, .i32⟩) (.of main_v327 : StableHlo.TRef sig ⟨S30000, .i32⟩) select,
    StableHlo.nullary main_c_133 (constantI S_ 32 4294967295#32),
    StableHlo.TRef.unary (.of main_c_133 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S30000, .i32⟩) (broadcastInDim S30000 ![] bcast_S_S30000),
    StableHlo.TRef.ternary (.of main_v325 : StableHlo.TRef sig ⟨S30000, .i1⟩) (.of main_v327 : StableHlo.TRef sig ⟨S30000, .i32⟩) (.of main_call35_v1 : StableHlo.TRef sig ⟨S30000, .i32⟩) (.of main_v328 : StableHlo.TRef sig ⟨S30000, .i32⟩) select,
    StableHlo.nullary main_c_134 (constantI S_ 32 0#32),
    StableHlo.unary main_c_134 main_v329 (broadcastInDim S30000 ![] bcast_S_S30000 : (⟨S_, .i32⟩ : BufTy).Contents (Elt F) → (⟨S30000, .i32⟩ : BufTy).Contents (Elt F)),
    StableHlo.binary main_v319 main_v329 main_v330 (cmpi .sge : (⟨S30000, .i32⟩ : BufTy).Contents (Elt F) → (⟨S30000, .i32⟩ : BufTy).Contents (Elt F) → (⟨S30000, .i1⟩ : BufTy).Contents (Elt F)),
    StableHlo.nullary main_c_135 (constantI S_ 32 512#32),
    StableHlo.TRef.unary (.of main_c_135 : StableHlo.TRef sig ⟨S_, .i32⟩) (.of main_call36_v0 : StableHlo.TRef sig ⟨S_, .i32⟩) id,
    StableHlo.TRef.nullary (.of main_call36_c : StableHlo.TRef sig ⟨S_, .i32⟩) (constantI S_ 32 0#32),
    StableHlo.TRef.binary (.of main_call36_v0 : StableHlo.TRef sig ⟨S_, .i32⟩) (.of main_call36_c : StableHlo.TRef sig ⟨S_, .i32⟩) (.of main_call36_v1 : StableHlo.TRef sig ⟨S_, .i1⟩) (cmpi .eq),
    StableHlo.TRef.nullary (.of main_call36_c_0 : StableHlo.TRef sig ⟨S_, .i32⟩) (constantI S_ 32 1#32),
    StableHlo.TRef.ternary (.of main_call36_v1 : StableHlo.TRef sig ⟨S_, .i1⟩) (.of main_call36_c_0 : StableHlo.TRef sig ⟨S_, .i32⟩) (.of main_call36_v0 : StableHlo.TRef sig ⟨S_, .i32⟩) (.of main_call36_v2 : StableHlo.TRef sig ⟨S_, .i32⟩) select,
    StableHlo.TRef.unary main_call36_call0.v0 (.of main_call36_v3 : StableHlo.TRef sig ⟨S30000, .i32⟩) (broadcastInDim S30000 ![] bcast_S_S30000),
    StableHlo.TRef.binary (.of main_v319 : StableHlo.TRef sig ⟨S30000, .i32⟩) (.of main_call36_v3 : StableHlo.TRef sig ⟨S30000, .i32⟩) (.of main_call36_v4 : StableHlo.TRef sig ⟨S30000, .i32⟩) Host.remsi,
    StableHlo.TRef.nullary (.of main_call36_c_1 : StableHlo.TRef sig ⟨S_, .i32⟩) (constantI S_ 32 0#32),
    StableHlo.TRef.unary (.of main_call36_c_1 : StableHlo.TRef sig ⟨S_, .i32⟩) (.of main_call36_v5 : StableHlo.TRef sig ⟨S30000, .i32⟩) (broadcastInDim S30000 ![] bcast_S_S30000),
    StableHlo.TRef.binary (.of main_call36_v4 : StableHlo.TRef sig ⟨S30000, .i32⟩) (.of main_call36_v5 : StableHlo.TRef sig ⟨S30000, .i32⟩) (.of main_call36_v6 : StableHlo.TRef sig ⟨S30000, .i1⟩) (cmpi .ne),
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v7 : StableHlo.TRef sig ⟨S30000, .i32⟩) (broadcastInDim S30000 ![] bcast_S_S30000),
    StableHlo.TRef.binary (.of main_call36_v4 : StableHlo.TRef sig ⟨S30000, .i32⟩) (.of main_call36_v7 : StableHlo.TRef sig ⟨S30000, .i32⟩) (.of main_call36_v8 : StableHlo.TRef sig ⟨S30000, .i1⟩) (cmpi .slt),
    StableHlo.TRef.nullary (.of main_call36_c_3 : StableHlo.TRef sig ⟨S_, .i32⟩) (constantI S_ 32 0#32),
    StableHlo.TRef.binary main_call36_call0.v0 (.of main_call36_c_3 : StableHlo.TRef sig ⟨S_, .i32⟩) (.of main_call36_v9 : StableHlo.TRef sig ⟨S_, .i1⟩) (cmpi .slt),
    StableHlo.TRef.unary (.of main_call36_v9 : StableHlo.TRef sig ⟨S_, .i1⟩) (.of main_call36_v10 : StableHlo.TRef sig ⟨S30000, .i1⟩) (broadcastInDim S30000 ![] bcast_S_S30000),
    StableHlo.TRef.binary (.of main_call36_v8 : StableHlo.TRef sig ⟨S30000, .i1⟩) (.of main_call36_v10 : StableHlo.TRef sig ⟨S30000, .i1⟩) (.of main_call36_v11 : StableHlo.TRef sig ⟨S30000, .i1⟩) (cmpi .ne),
    StableHlo.TRef.binary (.of main_call36_v11 : StableHlo.TRef sig ⟨S30000, .i1⟩) (.of main_call36_v6 : StableHlo.TRef sig ⟨S30000, .i1⟩) (.of main_call36_v12 : StableHlo.TRef sig ⟨S30000, .i1⟩) andi,
    StableHlo.TRef.unary main_call36_call0.v0 (.of main_call36_v13 : StableHlo.TRef sig ⟨S30000, .i32⟩) (broadcastInDim S30000 ![] bcast_S_S30000),
    StableHlo.TRef.binary (.of main_call36_v4 : StableHlo.TRef sig ⟨S30000, .i32⟩) (.of main_call36_v13 : StableHlo.TRef sig ⟨S30000, .i32⟩) (.of main_call36_v14 : StableHlo.TRef sig ⟨S30000, .i32⟩) addi,
    StableHlo.TRef.ternary (.of main_call36_v12 : StableHlo.TRef sig ⟨S30000, .i1⟩) (.of main_call36_v14 : StableHlo.TRef sig ⟨S30000, .i32⟩) (.of main_call36_v4 : StableHlo.TRef sig ⟨S30000, .i32⟩) (.of main_v331 : StableHlo.TRef sig ⟨S30000, .i32⟩) select,
    StableHlo.nullary main_c_136 (constantI S_ 32 4294967295#32),
    StableHlo.TRef.unary (.of main_c_136 : StableHlo.TRef sig ⟨S_, .i32⟩) (.of main_call37_v0 : StableHlo.TRef sig ⟨S_, .i32⟩) id,
    StableHlo.TRef.unary (.of main_call37_v0 : StableHlo.TRef sig ⟨S_, .i32⟩) (.of main_call37_v1 : StableHlo.TRef sig ⟨S30000, .i32⟩) (broadcastInDim S30000 ![] bcast_S_S30000),
    StableHlo.TRef.ternary (.of main_v330 : StableHlo.TRef sig ⟨S30000, .i1⟩) (.of main_v331 : StableHlo.TRef sig ⟨S30000, .i32⟩) (.of main_call37_v1 : StableHlo.TRef sig ⟨S30000, .i32⟩) (.of main_v332 : StableHlo.TRef sig ⟨S30000, .i32⟩) select,
    StableHlo.unary main_v323 main_v333 (broadcastInDim S30000x1 ![0] bcast_S30000_S30000x1_0 : (⟨S30000, .i32⟩ : BufTy).Contents (Elt F) → (⟨S30000x1, .i32⟩ : BufTy).Contents (Elt F)),
    StableHlo.unary main_v328 main_v334 (broadcastInDim S30000x1 ![0] bcast_S30000_S30000x1_0 : (⟨S30000, .i32⟩ : BufTy).Contents (Elt F) → (⟨S30000x1, .i32⟩ : BufTy).Contents (Elt F)),
    StableHlo.unary main_v332 main_v335 (broadcastInDim S30000x1 ![0] bcast_S30000_S30000x1_0 : (⟨S30000, .i32⟩ : BufTy).Contents (Elt F) → (⟨S30000x1, .i32⟩ : BufTy).Contents (Elt F)),
    StableHlo.nary ![main_v333, main_v334, main_v335] main_v336 (fun u => concatenate S30000x3 1 [⟨S30000x1, u 0⟩, ⟨S30000x1, u 1⟩, ⟨S30000x1, u 2⟩] concatenates_S30000x1_S30000x1_S30000x1_S30000x3_d1),
    StableHlo.nullary main_c_137 (constantI S_ 32 1#32),
    StableHlo.unary main_c_137 main_v337 (broadcastInDim S30000x1 ![] bcast_S_S30000x1 : (⟨S_, .i32⟩ : BufTy).Contents (Elt F) → (⟨S30000x1, .i32⟩ : BufTy).Contents (Elt F)),
    StableHlo.binary main_v337 main_v336 main_v338 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- Batch 2: its row of cell ids sliced out, the validity mask recomputed from it, and everything downstream. -/
abbrev ks2 : List (HloOp τ sig (Elt F)) :=
  [ StableHlo.unary main_v64 main_v339 ((extractStridedSlice S1x300000 ![2, 0] · slices_S4x300000_S1x300000_2_0) : (⟨S4x300000, .i32⟩ : BufTy).Contents (Elt F) → (⟨S1x300000, .i32⟩ : BufTy).Contents (Elt F)),
    StableHlo.reshape main_v339 main_v340 rfl shapeCasts_S1x300000_S300000,
    StableHlo.nullary main_c_138 (constantI S_ 32 262144#32),
    StableHlo.unary main_c_138 main_v341 (broadcastInDim S300000 ![] bcast_S_S300000 : (⟨S_, .i32⟩ : BufTy).Contents (Elt F) → (⟨S300000, .i32⟩ : BufTy).Contents (Elt F)),
    StableHlo.binary main_v340 main_v341 main_v342 (cmpi .ne : (⟨S300000, .i32⟩ : BufTy).Contents (Elt F) → (⟨S300000, .i32⟩ : BufTy).Contents (Elt F) → (⟨S300000, .i1⟩ : BufTy).Contents (Elt F)),
    StableHlo.nullary main_v343 (iotaInDim S300000 32 0),
    StableHlo.nullary main_c_139 (constantI S_ 32 300000#32),
    StableHlo.unary main_c_139 main_v344 (broadcastInDim S262145 ![] bcast_S_S262145 : (⟨S_, .i32⟩ : BufTy).Contents (Elt F) → (⟨S262145, .i32⟩ : BufTy).Contents (Elt F)),
    StableHlo.nullary main_c_140 (constantI S_ 32 0#32),
    StableHlo.unary main_c_140 main_v345 (broadcastInDim S300000 ![] bcast_S_S300000 : (⟨S_, .i32⟩ : BufTy).Contents (Elt F) → (⟨S300000, .i32⟩ : BufTy).Contents (Elt F)),
    StableHlo.binary main_v340 main_v345 main_v346 (cmpi .slt : (⟨S300000, .i32⟩ : BufTy).Contents (Elt F) → (⟨S300000, .i32⟩ : BufTy).Contents (Elt F) → (⟨S300000, .i1⟩ : BufTy).Contents (Elt F)),
    StableHlo.nullary main_c_141 (constantI S_ 32 262145#32),
    StableHlo.unary main_c_141 main_v347 (broadcastInDim S300000 ![] bcast_S_S300000 : (⟨S_, .i32⟩ : BufTy).Contents (Elt F) → (⟨S300000, .i32⟩ : BufTy).Contents (Elt F)),
    StableHlo.binary main_v340 main_v347 main_v348 (addi : (⟨S300000, .i32⟩ : BufTy).Contents (Elt F) → (⟨S300000, .i32⟩ : BufTy).Contents (Elt F) → (⟨S300000, .i32⟩ : BufTy).Contents (Elt F)),
    StableHlo.ternary main_v346 main_v348 main_v340 main_v349 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v349 main_v350 (broadcastInDim S300000x1 ![0] bcast_S300000_S300000x1_0 : (⟨S300000, .i32⟩ : BufTy).Contents (Elt F) → (⟨S300000x1, .i32⟩ : BufTy).Contents (Elt F)),
    StableHlo.ternary main_v344 main_v350 main_v343 main_v351 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_142 (constantI S_ 32 0#32),
    StableHlo.unary main_c_142 main_v352 (broadcastInDim S300000 ![] bcast_S_S300000 : (⟨S_, .i32⟩ : BufTy).Contents (Elt F) → (⟨S300000, .i32⟩ : BufTy).Contents (Elt F)),
    StableHlo.binary main_v340 main_v352 main_v353 (cmpi .slt : (⟨S300000, .i32⟩ : BufTy).Contents (Elt F) → (⟨S300000, .i32⟩ : BufTy).Contents (Elt F) → (⟨S300000, .i1⟩ : BufTy).Contents (Elt F)),
    StableHlo.nullary main_c_143 (constantI S_ 32 262145#32),
    StableHlo.unary main_c_143 main_v354 (broadcastInDim S300000 ![] bcast_S_S300000 : (⟨S_, .i32⟩ : BufTy).Contents (Elt F) → (⟨S300000, .i32⟩ : BufTy).Contents (Elt F)),
    StableHlo.binary main_v340 main_v354 main_v355 (addi : (⟨S300000, .i32⟩ : BufTy).Contents (Elt F) → (⟨S300000, .i32⟩ : BufTy).Contents (Elt F) → (⟨S300000, .i32⟩ : BufTy).Contents (Elt F)),
    StableHlo.ternary main_v353 main_v355 main_v340 main_v356 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v356 main_v357 (broadcastInDim S300000x1 ![0] bcast_S300000_S300000x1_0 : (⟨S300000, .i32⟩ : BufTy).Contents (Elt F) → (⟨S300000x1, .i32⟩ : BufTy).Contents (Elt F)),
    StableHlo.binary main_v351 main_v357 main_v358 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v358 main_v343 main_v359 (cmpi .eq : (⟨S300000, .i32⟩ : BufTy).Contents (Elt F) → (⟨S300000, .i32⟩ : BufTy).Contents (Elt F) → (⟨S300000, .i1⟩ : BufTy).Contents (Elt F)),
    StableHlo.binary main_v342 main_v359 main_v360 (andi : (⟨S300000, .i1⟩ : BufTy).Contents (Elt F) → (⟨S300000, .i1⟩ : BufTy).Contents (Elt F) → (⟨S300000, .i1⟩ : BufTy).Contents (Elt F)),
    StableHlo.unary main_v360 main_v361 ((extui 32 · natLt_1_32) : (⟨S300000, .i1⟩ : BufTy).Contents (Elt F) → (⟨S300000, .i32⟩ : BufTy).Contents (Elt F)),
    StableHlo.TRef.nullary (.of main_call38_call0_c : StableHlo.TRef sig ⟨S_, .i32⟩) (constantI S_ 32 0#32),
    StableHlo.TRef.unary (.of main_call38_call0_c : StableHlo.TRef sig ⟨S_, .i32⟩) (.of main_call38_call0_v0 : StableHlo.TRef sig ⟨S_, .i32⟩) (broadcastInDim S_ ![] bcast_S_S_),
    StableHlo.TRef.binary (.of main_v361 : StableHlo.TRef sig ⟨S300000, .i32⟩) (.of main_call38_call0_v0 : StableHlo.TRef sig ⟨S_, .i32⟩) (.of main_v362 : StableHlo.TRef sig ⟨S300000, .i32⟩) (fun x v => Host.reduceWindow IntOp.addi ![300000] ![1] ![299999] ![0] x v reduceWindows_S300000_S300000_w300000s1p299999_0 h_S_),
    StableHlo.nullary main_c_144 (constantI S_ 32 1#32),
    StableHlo.unary main_c_144 main_v363 (broadcastInDim S300000 ![] bcast_S_S300000 : (⟨S_, .i32⟩ : BufTy).Contents (Elt F) → (⟨S300000, .i32⟩ : BufTy).Contents (Elt F)),
    StableHlo.binary main_v362 main_v363 main_v364 (subi : (⟨S300000, .i32⟩ : BufTy).Contents (Elt F) → (⟨S300000, .i32⟩ : BufTy).Contents (Elt F) → (⟨S300000, .i32⟩ : BufTy).Contents (Elt F)),
    StableHlo.nullary main_c_145 (constantI S_ 32 30000#32),
    StableHlo.unary main_c_145 main_v365 (broadcastInDim S262145 ![] bcast_S_S262145 : (⟨S_, .i32⟩ : BufTy).Contents (Elt F) → (⟨S262145, .i32⟩ : BufTy).Contents (Elt F)),
    StableHlo.nullary main_c_146 (constantI S_ 32 262144#32),
    StableHlo.TRef.unary (.of main_c_146 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S300000, .i32⟩) (broadcastInDim S300000 ![] bcast_S_S300000),
    StableHlo.TRef.ternary (.of main_v360 : StableHlo.TRef sig ⟨S300000, .i1⟩) (.of main_v340 : StableHlo.TRef sig ⟨S300000, .i32⟩) (.of main_call39_v1 : StableHlo.TRef sig ⟨S300000, .i32⟩) (.of main_v366 : StableHlo.TRef sig ⟨S300000, .i32⟩) select,
    StableHlo.nullary main_c_147 (constantI S_ 32 30000#32),
    StableHlo.unary main_c_147 main_v367 (broadcastInDim S300000 ![] bcast_S_S300000 : (⟨S_, .i32⟩ : BufTy).Contents (Elt F) → (⟨S300000, .i32⟩ : BufTy).Contents (Elt F)),
    StableHlo.binary main_v364 main_v367 main_v368 (minsi : (⟨S300000, .i32⟩ : BufTy).Contents (Elt F) → (⟨S300000, .i32⟩ : BufTy).Contents (Elt F) → (⟨S300000, .i32⟩ : BufTy).Contents (Elt F)),
    StableHlo.nullary main_c_148 (constantI S_ 32 30000#32),
    StableHlo.TRef.unary (.of main_c_148 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S300000, .i32⟩) (broadcastInDim S300000 ![] bcast_S_S300000),
    StableHlo.TRef.ternary (.of main_v360 : StableHlo.TRef sig ⟨S300000, .i1⟩) (.of main_v368 : StableHlo.TRef sig ⟨S300000, .i32⟩) (.of main_call40_v1 : StableHlo.TRef sig ⟨S300000, .i32⟩) (.of main_v369 : StableHlo.TRef sig ⟨S300000, .i32⟩) select,
    StableHlo.nullary main_c_149 (constantI S_ 32 0#32),
    StableHlo.unary main_c_149 main_v370 (broadcastInDim S300000 ![] bcast_S_S300000 : (⟨S_, .i32⟩ : BufTy).Contents (Elt F) → (⟨S300000, .i32⟩ : BufTy).Contents (Elt F)),
    StableHlo.binary main_v366 main_v370 main_v371 (cmpi .slt : (⟨S300000, .i32⟩ : BufTy).Contents (Elt F) → (⟨S300000, .i32⟩ : BufTy).Contents (Elt F) → (⟨S300000, .i1⟩ : BufTy).Contents (Elt F)),
    StableHlo.nullary main_c_150 (constantI S_ 32 262145#32),
    StableHlo.unary main_c_150 main_v372 (broadcastInDim S300000 ![] bcast_S_S300000 : (⟨S_, .i32⟩ : BufTy).Contents (Elt F) → (⟨S300000, .i32⟩ : BufTy).Contents (Elt F)),
    StableHlo.binary main_v366 main_v372 main_v373 (addi : (⟨S300000, .i32⟩ : BufTy).Contents (Elt F) → (⟨S300000, .i32⟩ : BufTy).Contents (Elt F) → (⟨S300000, .i32⟩ : BufTy).Contents (Elt F)),
    StableHlo.ternary main_v371 main_v373 main_v366 main_v374 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v374 main_v375 (broadcastInDim S300000x1 ![0] bcast_S300000_S300000x1_0 : (⟨S300000, .i32⟩ : BufTy).Contents (Elt F) → (⟨S300000x1, .i32⟩ : BufTy).Contents (Elt F)),
    StableHlo.ternary main_v365 main_v375 main_v369 main_v376 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_151 (constantI S_ 32 0#32),
    StableHlo.unary main_c_151 main_v377 (broadcastInDim S300000 ![] bcast_S_S300000 : (⟨S_, .i32⟩ : BufTy).Contents (Elt F) → (⟨S300000, .i32⟩ : BufTy).Contents (Elt F)),
    StableHlo.binary main_v340 main_v377 main_v378 (cmpi .slt : (⟨S300000, .i32⟩ : BufTy).Contents (Elt F) → (⟨S300000, .i32⟩ : BufTy).Contents (Elt F) → (⟨S300000, .i1⟩ : BufTy).Contents (Elt F)),
    StableHlo.nullary main_c_152 (constantI S_ 32 262145#32),
    StableHlo.unary main_c_152 main_v379 (broadcastInDim S300000 ![] bcast_S_S300000 : (⟨S_, .i32⟩ : BufTy).Contents (Elt F) → (⟨S300000, .i32⟩ : BufTy).Contents (Elt F)),
    StableHlo.binary main_v340 main_v379 main_v380 (addi : (⟨S300000, .i32⟩ : BufTy).Contents (Elt F) → (⟨S300000, .i32⟩ : BufTy).Contents (Elt F) → (⟨S300000, .i32⟩ : BufTy).Contents (Elt F)),
    StableHlo.ternary main_v378 main_v380 main_v340 main_v381 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v381 main_v382 (broadcastInDim S300000x1 ![0] bcast_S300000_S300000x1_0 : (⟨S300000, .i32⟩ : BufTy).Contents (Elt F) → (⟨S300000x1, .i32⟩ : BufTy).Contents (Elt F)),
    StableHlo.binary main_v376 main_v382 main_v383 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_153 (constantI S_ 32 30000#32),
    StableHlo.TRef.unary (.of main_c_153 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S300000, .i32⟩) (broadcastInDim S300000 ![] bcast_S_S300000),
    StableHlo.TRef.ternary (.of main_v342 : StableHlo.TRef sig ⟨S300000, .i1⟩) (.of main_v383 : StableHlo.TRef sig ⟨S300000, .i32⟩) (.of main_call41_v1 : StableHlo.TRef sig ⟨S300000, .i32⟩) (.of main_v384 : StableHlo.TRef sig ⟨S300000, .i32⟩) select,
    StableHlo.TRef.nullary (.of main_call42_v0 : StableHlo.TRef sig ⟨S300000, .i32⟩) (iotaInDim S300000 32 0),
    StableHlo.TRef.binary (.of main_v340 : StableHlo.TRef sig ⟨S300000, .i32⟩) (.of main_call42_v0 : StableHlo.TRef sig ⟨S300000, .i32⟩) (.of main_call42_v1_0 : StableHlo.TRef sig ⟨S300000, .i32⟩) (fun x y => (Host.sort2 S300000 0 comparator_i32_i32_d0 x y).1),
    StableHlo.TRef.binary (.of main_v340 : StableHlo.TRef sig ⟨S300000, .i32⟩) (.of main_call42_v0 : StableHlo.TRef sig ⟨S300000, .i32⟩) (.of main_v385 : StableHlo.TRef sig ⟨S300000, .i32⟩) (fun x y => (Host.sort2 S300000 0 comparator_i32_i32_d0 x y).2),
    StableHlo.nullary main_c_154 (constantI S_ 32 0#32),
    StableHlo.unary main_c_154 main_v386 (broadcastInDim S300000 ![] bcast_S_S300000 : (⟨S_, .i32⟩ : BufTy).Contents (Elt F) → (⟨S300000, .i32⟩ : BufTy).Contents (Elt F)),
    StableHlo.binary main_v385 main_v386 main_v387 (cmpi .slt : (⟨S300000, .i32⟩ : BufTy).Contents (Elt F) → (⟨S300000, .i32⟩ : BufTy).Contents (Elt F) → (⟨S300000, .i1⟩ : BufTy).Contents (Elt F)),
    StableHlo.nullary main_c_155 (constantI S_ 32 300000#32),
    StableHlo.unary main_c_155 main_v388 (broadcastInDim S300000 ![] bcast_S_S300000 : (⟨S_, .i32⟩ : BufTy).Contents (Elt F) → (⟨S300000, .i32⟩ : BufTy).Contents (Elt F)),
    StableHlo.binary main_v385 main_v388 main_v389 (addi : (⟨S300000, .i32⟩ : BufTy).Contents (Elt F) → (⟨S300000, .i32⟩ : BufTy).Contents (Elt F) → (⟨S300000, .i32⟩ : BufTy).Contents (Elt F)),
    StableHlo.ternary main_v387 main_v389 main_v385 main_v390 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v390 main_v391 (broadcastInDim S300000x1 ![0] bcast_S300000_S300000x1_0 : (⟨S300000, .i32⟩ : BufTy).Contents (Elt F) → (⟨S300000x1, .i32⟩ : BufTy).Contents (Elt F)),
    StableHlo.binary main_v340 main_v391 main_v392 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_156 (constantI S_ 1 1#1),
    StableHlo.unary main_c_156 main_v393 (broadcastInDim S1 ![] bcast_S_S1 : (⟨S_, .i1⟩ : BufTy).Contents (Elt F) → (⟨S1, .i1⟩ : BufTy).Contents (Elt F)),
    StableHlo.unary main_v392 main_v394 ((extractStridedSlice S299999 ![1] · slices_S300000_S299999_1) : (⟨S300000, .i32⟩ : BufTy).Contents (Elt F) → (⟨S299999, .i32⟩ : BufTy).Contents (Elt F)),
    StableHlo.unary main_v392 main_v395 ((extractStridedSlice S299999 ![0] · slices_S300000_S299999_0) : (⟨S300000, .i32⟩ : BufTy).Contents (Elt F) → (⟨S299999, .i32⟩ : BufTy).Contents (Elt F)),
    StableHlo.binary main_v394 main_v395 main_v396 (cmpi .ne : (⟨S299999, .i32⟩ : BufTy).Contents (Elt F) → (⟨S299999, .i32⟩ : BufTy).Contents (Elt F) → (⟨S299999, .i1⟩ : BufTy).Contents (Elt F)),
    StableHlo.binary main_v393 main_v396 main_v397 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_157 (constantI S_ 32 0#32),
    StableHlo.TRef.unary (.of main_c_157 : StableHlo.TRef sig ⟨S_, .i32⟩) (.of main_call43_v0 : StableHlo.TRef sig ⟨S_, .i32⟩) id,
    StableHlo.TRef.unary (.of main_call43_v0 : StableHlo.TRef sig ⟨S_, .i32⟩) (.of main_call43_v1 : StableHlo.TRef sig ⟨S300000, .i32⟩) (broadcastInDim S300000 ![] bcast_S_S300000),
    StableHlo.TRef.ternary (.of main_v397 : StableHlo.TRef sig ⟨S300000, .i1⟩) (.of main_v343 : StableHlo.TRef sig ⟨S300000, .i32⟩) (.of main_call43_v1 : StableHlo.TRef sig ⟨S300000, .i32⟩) (.of main_v398 : StableHlo.TRef sig ⟨S300000, .i32⟩) select,
    StableHlo.TRef.nullary (.of main_call44_c : StableHlo.TRef sig ⟨S_, .i32⟩) (constantI S_ 32 2147483648#32),
    StableHlo.TRef.unary (.of main_call44_c : StableHlo.TRef sig ⟨S_, .i32⟩) (.of main_call44_v0 : StableHlo.TRef sig ⟨S_, .i32⟩) (broadcastInDim S_ ![] bcast_S_S_),
    StableHlo.TRef.binary (.of main_v398 : StableHlo.TRef sig ⟨S300000, .i32⟩) (.of main_call44_v0 : StableHlo.TRef sig ⟨S_, .i32⟩) (.of main_v399 : StableHlo.TRef sig ⟨S300000, .i32⟩) (fun x v => Host.reduceWindow IntOp.maxsi ![300000] ![1] ![299999] ![0] x v reduceWindows_S300000_S300000_w300000s1p299999_0 h_S_),
    StableHlo.nullary main_c_158 (constantI S_ 32 0#32),
    StableHlo.unary main_c_158 main_v400 (broadcastInDim S300000 ![] bcast_S_S300000 : (⟨S_, .i32⟩ : BufTy).Contents (Elt F) → (⟨S300000, .i32⟩ : BufTy).Contents (Elt F)),
    StableHlo.binary main_v343 main_v399 main_v401 (subi : (⟨S300000, .i32⟩ : BufTy).Contents (Elt F) → (⟨S300000, .i32⟩ : BufTy).Contents (Elt F) → (⟨S300000, .i32⟩ : BufTy).Contents (Elt F)),
    StableHlo.nullary main_c_159 (constantI S_ 32 0#32),
    StableHlo.unary main_c_159 main_v402 (broadcastInDim S300000 ![] bcast_S_S300000 : (⟨S_, .i32⟩ : BufTy).Contents (Elt F) → (⟨S300000, .i32⟩ : BufTy).Contents (Elt F)),
    StableHlo.binary main_v385 main_v402 main_v403 (cmpi .slt : (⟨S300000, .i32⟩ : BufTy).Contents (Elt F) → (⟨S300000, .i32⟩ : BufTy).Contents (Elt F) → (⟨S300000, .i1⟩ : BufTy).Contents (Elt F)),
    StableHlo.nullary main_c_160 (constantI S_ 32 300000#32),
    StableHlo.unary main_c_160 main_v404 (broadcastInDim S300000 ![] bcast_S_S300000 : (⟨S_, .i32⟩ : BufTy).Contents (Elt F) → (⟨S300000, .i32⟩ : BufTy).Contents (Elt F)),
    StableHlo.binary main_v385 main_v404 main_v405 (addi : (⟨S300000, .i32⟩ : BufTy).Contents (Elt F) → (⟨S300000, .i32⟩ : BufTy).Contents (Elt F) → (⟨S300000, .i32⟩ : BufTy).Contents (Elt F)),
    StableHlo.ternary main_v403 main_v405 main_v385 main_v406 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v406 main_v407 (broadcastInDim S300000x1 ![0] bcast_S300000_S300000x1_0 : (⟨S300000, .i32⟩ : BufTy).Contents (Elt F) → (⟨S300000x1, .i32⟩ : BufTy).Contents (Elt F)),
    StableHlo.ternary main_v400 main_v407 main_v401 main_v408 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_161 (constantI S_ 32 30000#32),
    StableHlo.unary main_c_161 main_v409 (broadcastInDim S300000 ![] bcast_S_S300000 : (⟨S_, .i32⟩ : BufTy).Contents (Elt F) → (⟨S300000, .i32⟩ : BufTy).Contents (Elt F)),
    StableHlo.binary main_v384 main_v409 main_v410 (cmpi .slt : (⟨S300000, .i32⟩ : BufTy).Contents (Elt F) → (⟨S300000, .i32⟩ : BufTy).Contents (Elt F) → (⟨S300000, .i1⟩ : BufTy).Contents (Elt F)),
    StableHlo.binary main_v342 main_v410 main_v411 (andi : (⟨S300000, .i1⟩ : BufTy).Contents (Elt F) → (⟨S300000, .i1⟩ : BufTy).Contents (Elt F) → (⟨S300000, .i1⟩ : BufTy).Contents (Elt F)),
    StableHlo.nullary main_c_162 (constantI S_ 32 20#32),
    StableHlo.unary main_c_162 main_v412 (broadcastInDim S300000 ![] bcast_S_S300000 : (⟨S_, .i32⟩ : BufTy).Contents (Elt F) → (⟨S300000, .i32⟩ : BufTy).Contents (Elt F)),
    StableHlo.binary main_v408 main_v412 main_v413 (cmpi .slt : (⟨S300000, .i32⟩ : BufTy).Contents (Elt F) → (⟨S300000, .i32⟩ : BufTy).Contents (Elt F) → (⟨S300000, .i1⟩ : BufTy).Contents (Elt F)),
    StableHlo.binary main_v411 main_v413 main_v414 (andi : (⟨S300000, .i1⟩ : BufTy).Contents (Elt F) → (⟨S300000, .i1⟩ : BufTy).Contents (Elt F) → (⟨S300000, .i1⟩ : BufTy).Contents (Elt F)),
    StableHlo.nullary main_c_163 (constantI S_ 32 30000#32),
    StableHlo.TRef.unary (.of main_c_163 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S300000, .i32⟩) (broadcastInDim S300000 ![] bcast_S_S300000),
    StableHlo.TRef.ternary (.of main_v414 : StableHlo.TRef sig ⟨S300000, .i1⟩) (.of main_v384 : StableHlo.TRef sig ⟨S300000, .i32⟩) (.of main_call45_v1 : StableHlo.TRef sig ⟨S300000, .i32⟩) (.of main_v415 : StableHlo.TRef sig ⟨S300000, .i32⟩) select,
    StableHlo.nullary main_c_164 (constantI S_ 32 0#32),
    StableHlo.TRef.unary (.of main_c_164 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S300000, .i32⟩) (broadcastInDim S300000 ![] bcast_S_S300000),
    StableHlo.TRef.ternary (.of main_v414 : StableHlo.TRef sig ⟨S300000, .i1⟩) (.of main_v408 : StableHlo.TRef sig ⟨S300000, .i32⟩) (.of main_call46_v1 : StableHlo.TRef sig ⟨S300000, .i32⟩) (.of main_v416 : StableHlo.TRef sig ⟨S300000, .i32⟩) select,
    StableHlo.nullary main_cst_165 (constant S_ .f32 0x00000000#32),
    StableHlo.unary main_cst_165 main_v417 (broadcastInDim S30001x20x5 ![] bcast_S_S30001x20x5 : (⟨S_, .f32⟩ : BufTy).Contents (Elt F) → (⟨S30001x20x5, .f32⟩ : BufTy).Contents (Elt F)),
    StableHlo.unary main_v414 main_v418 (broadcastInDim S300000x1 ![0] bcast_S300000_S300000x1_0 : (⟨S300000, .i1⟩ : BufTy).Contents (Elt F) → (⟨S300000x1, .i1⟩ : BufTy).Contents (Elt F)),
    StableHlo.nullary main_cst_166 (constant S_ .f32 0x00000000#32),
    StableHlo.TRef.unary (.of main_cst_166 : StableHlo.TRef sig ⟨S_, .f32⟩) (.of main_call47_v0 : StableHlo.TRef sig ⟨S_, .f32⟩) id,
    StableHlo.TRef.unary (.of main_v418 : StableHlo.TRef sig ⟨S300000x1, .i1⟩) (.of main_call47_v1 : StableHlo.TRef sig ⟨S300000x5, .i1⟩) (broadcastInDim S300000x5 ![0, 1] bcast_S300000x1_S300000x5_0_1),
    StableHlo.TRef.unary (.of main_call47_v0 : StableHlo.TRef sig ⟨S_, .f32⟩) (.of main_call47_v2 : StableHlo.TRef sig ⟨S300000x5, .f32⟩) (broadcastInDim S300000x5 ![] bcast_S_S300000x5),
    StableHlo.TRef.ternary (.of main_call47_v1 : StableHlo.TRef sig ⟨S300000x5, .i1⟩) (.of main_v41 : StableHlo.TRef sig ⟨S300000x5, .f32⟩) (.of main_call47_v2 : StableHlo.TRef sig ⟨S300000x5, .f32⟩) (.of main_v419 : StableHlo.TRef sig ⟨S300000x5, .f32⟩) select,
    StableHlo.nullary main_c_167 (constantI S_ 32 0#32),
    StableHlo.unary main_c_167 main_v420 (broadcastInDim S300000 ![] bcast_S_S300000 : (⟨S_, .i32⟩ : BufTy).Contents (Elt F) → (⟨S300000, .i32⟩ : BufTy).Contents (Elt F)),
    StableHlo.binary main_v415 main_v420 main_v421 (cmpi .slt : (⟨S300000, .i32⟩ : BufTy).Contents (Elt F) → (⟨S300000, .i32⟩ : BufTy).Contents (Elt F) → (⟨S300000, .i1⟩ : BufTy).Contents (Elt F)),
    StableHlo.nullary main_c_168 (constantI S_ 32 30001#32),
    StableHlo.unary main_c_168 main_v422 (broadcastInDim S300000 ![] bcast_S_S300000 : (⟨S_, .i32⟩ : BufTy).Contents (Elt F) → (⟨S300000, .i32⟩ : BufTy).Contents (Elt F)),
    StableHlo.binary main_v415 main_v422 main_v423 (addi : (⟨S300000, .i32⟩ : BufTy).Contents (Elt F) → (⟨S300000, .i32⟩ : BufTy).Contents (Elt F) → (⟨S300000, .i32⟩ : BufTy).Contents (Elt F)),
    StableHlo.ternary main_v421 main_v423 main_v415 main_v424 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_169 (constantI S_ 32 0#32),
    StableHlo.unary main_c_169 main_v425 (broadcastInDim S300000 ![] bcast_S_S300000 : (⟨S_, .i32⟩ : BufTy).Contents (Elt F) → (⟨S300000, .i32⟩ : BufTy).Contents (Elt F)),
    StableHlo.binary main_v416 main_v425 main_v426 (cmpi .slt : (⟨S300000, .i32⟩ : BufTy).Contents (Elt F) → (⟨S300000, .i32⟩ : BufTy).Contents (Elt F) → (⟨S300000, .i1⟩ : BufTy).Contents (Elt F)),
    StableHlo.nullary main_c_170 (constantI S_ 32 20#32),
    StableHlo.unary main_c_170 main_v427 (broadcastInDim S300000 ![] bcast_S_S300000 : (⟨S_, .i32⟩ : BufTy).Contents (Elt F) → (⟨S300000, .i32⟩ : BufTy).Contents (Elt F)),
    StableHlo.binary main_v416 main_v427 main_v428 (addi : (⟨S300000, .i32⟩ : BufTy).Contents (Elt F) → (⟨S300000, .i32⟩ : BufTy).Contents (Elt F) → (⟨S300000, .i32⟩ : BufTy).Contents (Elt F)),
    StableHlo.ternary main_v426 main_v428 main_v416 main_v429 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v424 main_v430 (broadcastInDim S300000x1 ![0] bcast_S300000_S300000x1_0 : (⟨S300000, .i32⟩ : BufTy).Contents (Elt F) → (⟨S300000x1, .i32⟩ : BufTy).Contents (Elt F)),
    StableHlo.unary main_v429 main_v431 (broadcastInDim S300000x1 ![0] bcast_S300000_S300000x1_0 : (⟨S300000, .i32⟩ : BufTy).Contents (Elt F) → (⟨S300000x1, .i32⟩ : BufTy).Contents (Elt F)),
    StableHlo.binary main_v430 main_v431 main_v432 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v417 main_v432 main_v419 main_v433 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v433 main_v434 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v414 main_v435 ((extui 32 · natLt_1_32) : (⟨S300000, .i1⟩ : BufTy).Contents (Elt F) → (⟨S300000, .i32⟩ : BufTy).Contents (Elt F)),
    StableHlo.nullary main_c_171 (constantI S_ 32 0#32),
    StableHlo.unary main_c_171 main_v436 (broadcastInDim S30001 ![] bcast_S_S30001 : (⟨S_, .i32⟩ : BufTy).Contents (Elt F) → (⟨S30001, .i32⟩ : BufTy).Contents (Elt F)),
    StableHlo.unary main_v415 main_v437 (broadcastInDim S300000x1 ![0] bcast_S300000_S300000x1_0 : (⟨S300000, .i32⟩ : BufTy).Contents (Elt F) → (⟨S300000x1, .i32⟩ : BufTy).Contents (Elt F)),
    StableHlo.ternary main_v436 main_v437 main_v435 main_v438 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v438 main_v439 ((extractStridedSlice S30000 ![0] · slices_S30001_S30000_0) : (⟨S30001, .i32⟩ : BufTy).Contents (Elt F) → (⟨S30000, .i32⟩ : BufTy).Contents (Elt F)),
    StableHlo.nullary main_c_172 (constantI S_ 32 4294967295#32),
    StableHlo.unary main_c_172 main_v440 (broadcastInDim S30001 ![] bcast_S_S30001 : (⟨S_, .i32⟩ : BufTy).Contents (Elt F) → (⟨S30001, .i32⟩ : BufTy).Contents (Elt F)),
    StableHlo.nullary main_c_173 (constantI S_ 32 30000#32),
    StableHlo.unary main_c_173 main_v441 (broadcastInDim S300000 ![] bcast_S_S300000 : (⟨S_, .i32⟩ : BufTy).Contents (Elt F) → (⟨S300000, .i32⟩ : BufTy).Contents (Elt F)),
    StableHlo.binary main_v364 main_v441 main_v442 (cmpi .slt : (⟨S300000, .i32⟩ : BufTy).Contents (Elt F) → (⟨S300000, .i32⟩ : BufTy).Contents (Elt F) → (⟨S300000, .i1⟩ : BufTy).Contents (Elt F)),
    StableHlo.binary main_v360 main_v442 main_v443 (andi : (⟨S300000, .i1⟩ : BufTy).Contents (Elt F) → (⟨S300000, .i1⟩ : BufTy).Contents (Elt F) → (⟨S300000, .i1⟩ : BufTy).Contents (Elt F)),
    StableHlo.nullary main_c_174 (constantI S_ 32 30000#32),
    StableHlo.TRef.unary (.of main_c_174 : StableHlo.TRef sig ⟨S_, .i32⟩) (.of main_call48_v0 : StableHlo.TRef sig ⟨S_, .i32⟩) id,
    StableHlo.TRef.unary (.of main_call48_v0 : StableHlo.TRef sig ⟨S_, .i32⟩) (.of main_call48_v1 : StableHlo.TRef sig ⟨S300000, .i32⟩) (broadcastInDim S300000 ![] bcast_S_S300000),
    StableHlo.TRef.ternary (.of main_v443 : StableHlo.TRef sig ⟨S300000, .i1⟩) (.of main_v364 : StableHlo.TRef sig ⟨S300000, .i32⟩) (.of main_call48_v1 : StableHlo.TRef sig ⟨S300000, .i32⟩) (.of main_v444 : StableHlo.TRef sig ⟨S300000, .i32⟩) select,
    StableHlo.nullary main_c_175 (constantI S_ 32 30000#32),
    StableHlo.unary main_c_175 main_v445 (broadcastInDim S300000 ![] bcast_S_S300000 : (⟨S_, .i32⟩ : BufTy).Contents (Elt F) → (⟨S300000, .i32⟩ : BufTy).Contents (Elt F)),
    StableHlo.binary main_v364 main_v445 main_v446 (cmpi .slt : (⟨S300000, .i32⟩ : BufTy).Contents (Elt F) → (⟨S300000, .i32⟩ : BufTy).Contents (Elt F) → (⟨S300000, .i1⟩ : BufTy).Contents (Elt F)),
    StableHlo.binary main_v360 main_v446 main_v447 (andi : (⟨S300000, .i1⟩ : BufTy).Contents (Elt F) → (⟨S300000, .i1⟩ : BufTy).Contents (Elt F) → (⟨S300000, .i1⟩ : BufTy).Contents (Elt F)),
    StableHlo.nullary main_c_176 (constantI S_ 32 4294967295#32),
    StableHlo.TRef.unary (.of main_c_176 : StableHlo.TRef sig ⟨S_, .i32⟩) (.of main_call49_v0 : StableHlo.TRef sig ⟨S_, .i32⟩) id,
    StableHlo.TRef.unary (.of main_call49_v0 : StableHlo.TRef sig ⟨S_, .i32⟩) (.of main_call49_v1 : StableHlo.TRef sig ⟨S300000, .i32⟩) (broadcastInDim S300000 ![] bcast_S_S300000),
    StableHlo.TRef.ternary (.of main_v447 : StableHlo.TRef sig ⟨S300000, .i1⟩) (.of main_v340 : StableHlo.TRef sig ⟨S300000, .i32⟩) (.of main_call49_v1 : StableHlo.TRef sig ⟨S300000, .i32⟩) (.of main_v448 : StableHlo.TRef sig ⟨S300000, .i32⟩) select,
    StableHlo.nullary main_c_177 (constantI S_ 32 0#32),
    StableHlo.unary main_c_177 main_v449 (broadcastInDim S300000 ![] bcast_S_S300000 : (⟨S_, .i32⟩ : BufTy).Contents (Elt F) → (⟨S300000, .i32⟩ : BufTy).Contents (Elt F)),
    StableHlo.binary main_v444 main_v449 main_v450 (cmpi .slt : (⟨S300000, .i32⟩ : BufTy).Contents (Elt F) → (⟨S300000, .i32⟩ : BufTy).Contents (Elt F) → (⟨S300000, .i1⟩ : BufTy).Contents (Elt F)),
    StableHlo.nullary main_c_178 (constantI S_ 32 30001#32),
    StableHlo.unary main_c_178 main_v451 (broadcastInDim S300000 ![] bcast_S_S300000 : (⟨S_, .i32⟩ : BufTy).Contents (Elt F) → (⟨S300000, .i32⟩ : BufTy).Contents (Elt F)),
    StableHlo.binary main_v444 main_v451 main_v452 (addi : (⟨S300000, .i32⟩ : BufTy).Contents (Elt F) → (⟨S300000, .i32⟩ : BufTy).Contents (Elt F) → (⟨S300000, .i32⟩ : BufTy).Contents (Elt F)),
    StableHlo.ternary main_v450 main_v452 main_v444 main_v453 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v453 main_v454 (broadcastInDim S300000x1 ![0] bcast_S300000_S300000x1_0 : (⟨S300000, .i32⟩ : BufTy).Contents (Elt F) → (⟨S300000x1, .i32⟩ : BufTy).Contents (Elt F)),
    StableHlo.ternary main_v440 main_v454 main_v448 main_v455 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v455 main_v456 ((extractStridedSlice S30000 ![0] · slices_S30001_S30000_0) : (⟨S30001, .i32⟩ : BufTy).Contents (Elt F) → (⟨S30000, .i32⟩ : BufTy).Contents (Elt F)),
    StableHlo.nullary main_c_179 (constantI S_ 32 0#32),
    StableHlo.unary main_c_179 main_v457 (broadcastInDim S30000 ![] bcast_S_S30000 : (⟨S_, .i32⟩ : BufTy).Contents (Elt F) → (⟨S30000, .i32⟩ : BufTy).Contents (Elt F)),
    StableHlo.binary main_v456 main_v457 main_v458 (cmpi .sge : (⟨S30000, .i32⟩ : BufTy).Contents (Elt F) → (⟨S30000, .i32⟩ : BufTy).Contents (Elt F) → (⟨S30000, .i1⟩ : BufTy).Contents (Elt F)),
    StableHlo.nullary main_c_180 (constantI S_ 32 262144#32),
    StableHlo.TRef.unary (.of main_c_180 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S30000, .i32⟩) (broadcastInDim S30000 ![] bcast_S_S30000),
    StableHlo.TRef.binary (.of main_v456 : StableHlo.TRef sig ⟨S30000, .i32⟩) (.of main_call50_v1 : StableHlo.TRef sig ⟨S30000, .i32⟩) (.of main_call50_v2 : StableHlo.TRef sig ⟨S30000, .i32⟩) Host.divsi,
    StableHlo.TRef.unary (.of main_v456 : StableHlo.TRef sig ⟨S30000, .i32⟩) (.of main_call50_v3 : StableHlo.TRef sig ⟨S30000, .i32⟩) signi,
    StableHlo.TRef.unary (.of main_call50_v0 : StableHlo.TRef sig ⟨S_, .i32⟩) (.of main_call50_v4 : StableHlo.TRef sig ⟨S_, .i32⟩) signi,
    StableHlo.TRef.unary (.of main_call50_v4 : StableHlo.TRef sig ⟨S_, .i32⟩) (.of main_call50_v5 : StableHlo.TRef sig ⟨S30000, .i32⟩) (broadcastInDim S30000 ![] bcast_S_S30000),
    StableHlo.TRef.binary (.of main_call50_v3 : StableHlo.TRef sig ⟨S30000, .i32⟩) (.of main_call50_v5 : StableHlo.TRef sig ⟨S30000, .i32⟩) (.of main_call50_v6 : StableHlo.TRef sig ⟨S30000, .i1⟩) (cmpi .ne),
    StableHlo.TRef.unary (.of main_call50_v0 : StableHlo.TRef sig ⟨S_, .i32⟩) (.of main_call50_v7 : StableHlo.TRef sig ⟨S30000, .i32⟩) (broadcastInDim S30000 ![] bcast_S_S30000),
    StableHlo.TRef.binary (.of main_v456 : StableHlo.TRef sig ⟨S30000, .i32⟩) (.of main_call50_v7 : StableHlo.TRef sig ⟨S30000, .i32⟩) (.of main_call50_v8 : StableHlo.TRef sig ⟨S30000, .i32⟩) Host.remsi,
    StableHlo.TRef.nullary (.of main_call50_c : StableHlo.TRef sig ⟨S_, .i32⟩) (constantI S_ 32 0#32),
    StableHlo.TRef.unary (.of main_call50_c : StableHlo.TRef sig ⟨S_, .i32⟩) (.of main_call50_v9 : StableHlo.TRef sig ⟨S30000, .i32⟩) (broadcastInDim S30000 ![] bcast_S_S30000),
    StableHlo.TRef.binary (.of main_call50_v8 : StableHlo.TRef sig ⟨S30000, .i32⟩) (.of main_call50_v9 : StableHlo.TRef sig ⟨S30000, .i32⟩) (.of main_call50_v10 : StableHlo.TRef sig ⟨S30000, .i1⟩) (cmpi .ne),
    StableHlo.TRef.binary (.of main_call50_v6 : StableHlo.TRef sig ⟨S30000, .i1⟩) (.of main_call50_v10 : StableHlo.TRef sig ⟨S30000, .i1⟩) (.of main_call50_v11 : StableHlo.TRef sig ⟨S30000, .i1⟩) andi,
    StableHlo.TRef.nullary (.of main_call50_c_0 : StableHlo.TRef sig ⟨S_, .i32⟩) (constantI S_ 32 1#32),
    StableHlo.TRef.unary (.of main_call50_c_0 : StableHlo.TRef sig ⟨S_, .i32⟩) (.of main_call50_v12 : StableHlo.TRef sig ⟨S30000, .i32⟩) (broadcastInDim S30000 ![] bcast_S_S30000),
    StableHlo.TRef.binary (.of main_call50_v2 : StableHlo.TRef sig ⟨S30000, .i32⟩) (.of main_call50_v12 : StableHlo.TRef sig ⟨S30000, .i32⟩) (.of main_call50_v13 : StableHlo.TRef sig ⟨S30000, .i32⟩) subi,
    StableHlo.TRef.ternary (.of main_call50_v11 : StableHlo.TRef sig ⟨S30000, .i1⟩) (.of main_call50_v13 : StableHlo.TRef sig ⟨S30000, .i32⟩) (.of main_call50_v2 : StableHlo.TRef sig ⟨S30000, .i32⟩) (.of main_v459 : StableHlo.TRef sig ⟨S30000, .i32⟩) select,
    StableHlo.nullary main_c_181 (constantI S_ 32 4294967295#32),
    StableHlo.TRef.unary (.of main_c_181 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S30000, .i32⟩) (broadcastInDim S30000 ![] bcast_S_S30000),
    StableHlo.TRef.ternary (.of main_v458 : StableHlo.TRef sig ⟨S30000, .i1⟩) (.of main_v459 : StableHlo.TRef sig ⟨S30000, .i32⟩) (.of main_call51_v1 : StableHlo.TRef sig ⟨S30000, .i32⟩) (.of main_v460 : StableHlo.TRef sig ⟨S30000, .i32⟩) select,
    StableHlo.nullary main_c_182 (constantI S_ 32 0#32),
    StableHlo.unary main_c_182 main_v461 (broadcastInDim S30000 ![] bcast_S_S30000 : (⟨S_, .i32⟩ : BufTy).Contents (Elt F) → (⟨S30000, .i32⟩ : BufTy).Contents (Elt F)),
    StableHlo.binary main_v456 main_v461 main_v462 (cmpi .sge : (⟨S30000, .i32⟩ : BufTy).Contents (Elt F) → (⟨S30000, .i32⟩ : BufTy).Contents (Elt F) → (⟨S30000, .i1⟩ : BufTy).Contents (Elt F)),
    StableHlo.nullary main_c_183 (constantI S_ 32 512#32),
    StableHlo.TRef.unary (.of main_c_183 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S30000, .i32⟩) (broadcastInDim S30000 ![] bcast_S_S30000),
    StableHlo.TRef.binary (.of main_v456 : StableHlo.TRef sig ⟨S30000, .i32⟩) (.of main_call52_v1 : StableHlo.TRef sig ⟨S30000, .i32⟩) (.of main_call52_v2 : StableHlo.TRef sig ⟨S30000, .i32⟩) Host.divsi,
    StableHlo.TRef.unary (.of main_v456 : StableHlo.TRef sig ⟨S30000, .i32⟩) (.of main_call52_v3 : StableHlo.TRef sig ⟨S30000, .i32⟩) signi,
    StableHlo.TRef.unary (.of main_call52_v0 : StableHlo.TRef sig ⟨S_, .i32⟩) (.of main_call52_v4 : StableHlo.TRef sig ⟨S_, .i32⟩) signi,
    StableHlo.TRef.unary (.of main_call52_v4 : StableHlo.TRef sig ⟨S_, .i32⟩) (.of main_call52_v5 : StableHlo.TRef sig ⟨S30000, .i32⟩) (broadcastInDim S30000 ![] bcast_S_S30000),
    StableHlo.TRef.binary (.of main_call52_v3 : StableHlo.TRef sig ⟨S30000, .i32⟩) (.of main_call52_v5 : StableHlo.TRef sig ⟨S30000, .i32⟩) (.of main_call52_v6 : StableHlo.TRef sig ⟨S30000, .i1⟩) (cmpi .ne),
    StableHlo.TRef.unary (.of main_call52_v0 : StableHlo.TRef sig ⟨S_, .i32⟩) (.of main_call52_v7 : StableHlo.TRef sig ⟨S30000, .i32⟩) (broadcastInDim S30000 ![] bcast_S_S30000),
    StableHlo.TRef.binary (.of main_v456 : StableHlo.TRef sig ⟨S30000, .i32⟩) (.of main_call52_v7 : StableHlo.TRef sig ⟨S30000, .i32⟩) (.of main_call52_v8 : StableHlo.TRef sig ⟨S30000, .i32⟩) Host.remsi,
    StableHlo.TRef.nullary (.of main_call52_c : StableHlo.TRef sig ⟨S_, .i32⟩) (constantI S_ 32 0#32),
    StableHlo.TRef.unary (.of main_call52_c : StableHlo.TRef sig ⟨S_, .i32⟩) (.of main_call52_v9 : StableHlo.TRef sig ⟨S30000, .i32⟩) (broadcastInDim S30000 ![] bcast_S_S30000),
    StableHlo.TRef.binary (.of main_call52_v8 : StableHlo.TRef sig ⟨S30000, .i32⟩) (.of main_call52_v9 : StableHlo.TRef sig ⟨S30000, .i32⟩) (.of main_call52_v10 : StableHlo.TRef sig ⟨S30000, .i1⟩) (cmpi .ne),
    StableHlo.TRef.binary (.of main_call52_v6 : StableHlo.TRef sig ⟨S30000, .i1⟩) (.of main_call52_v10 : StableHlo.TRef sig ⟨S30000, .i1⟩) (.of main_call52_v11 : StableHlo.TRef sig ⟨S30000, .i1⟩) andi,
    StableHlo.TRef.nullary (.of main_call52_c_0 : StableHlo.TRef sig ⟨S_, .i32⟩) (constantI S_ 32 1#32),
    StableHlo.TRef.unary (.of main_call52_c_0 : StableHlo.TRef sig ⟨S_, .i32⟩) (.of main_call52_v12 : StableHlo.TRef sig ⟨S30000, .i32⟩) (broadcastInDim S30000 ![] bcast_S_S30000),
    StableHlo.TRef.binary (.of main_call52_v2 : StableHlo.TRef sig ⟨S30000, .i32⟩) (.of main_call52_v12 : StableHlo.TRef sig ⟨S30000, .i32⟩) (.of main_call52_v13 : StableHlo.TRef sig ⟨S30000, .i32⟩) subi,
    StableHlo.TRef.ternary (.of main_call52_v11 : StableHlo.TRef sig ⟨S30000, .i1⟩) (.of main_call52_v13 : StableHlo.TRef sig ⟨S30000, .i32⟩) (.of main_call52_v2 : StableHlo.TRef sig ⟨S30000, .i32⟩) (.of main_v463 : StableHlo.TRef sig ⟨S30000, .i32⟩) select,
    StableHlo.nullary main_c_184 (constantI S_ 32 512#32),
    StableHlo.TRef.unary (.of main_c_184 : StableHlo.TRef sig ⟨S_, .i32⟩) (.of main_call53_v0 : StableHlo.TRef sig ⟨S_, .i32⟩) id,
    StableHlo.TRef.nullary (.of main_call53_c : StableHlo.TRef sig ⟨S_, .i32⟩) (constantI S_ 32 0#32),
    StableHlo.TRef.binary (.of main_call53_v0 : StableHlo.TRef sig ⟨S_, .i32⟩) (.of main_call53_c : StableHlo.TRef sig ⟨S_, .i32⟩) (.of main_call53_v1 : StableHlo.TRef sig ⟨S_, .i1⟩) (cmpi .eq),
    StableHlo.TRef.nullary (.of main_call53_c_0 : StableHlo.TRef sig ⟨S_, .i32⟩) (constantI S_ 32 1#32),
    StableHlo.TRef.ternary (.of main_call53_v1 : StableHlo.TRef sig ⟨S_, .i1⟩) (.of main_call53_c_0 : StableHlo.TRef sig ⟨S_, .i32⟩) (.of main_call53_v0 : StableHlo.TRef sig ⟨S_, .i32⟩) (.of main_call53_v2 : StableHlo.TRef sig ⟨S_, .i32⟩) select,
    StableHlo.TRef.unary main_call53_call0.v0 (.of main_call53_v3 : StableHlo.TRef sig ⟨S30000, .i32⟩) (broadcastInDim S30000 ![] bcast_S_S30000),
    StableHlo.TRef.binary (.of main_v463 : StableHlo.TRef sig ⟨S30000, .i32⟩) (.of main_call53_v3 : StableHlo.TRef sig ⟨S30000, .i32⟩) (.of main_call53_v4 : StableHlo.TRef sig ⟨S30000, .i32⟩) Host.remsi,
    StableHlo.TRef.nullary (.of main_call53_c_1 : StableHlo.TRef sig ⟨S_, .i32⟩) (constantI S_ 32 0#32),
    StableHlo.TRef.unary (.of main_call53_c_1 : StableHlo.TRef sig ⟨S_, .i32⟩) (.of main_call53_v5 : StableHlo.TRef sig ⟨S30000, .i32⟩) (broadcastInDim S30000 ![] bcast_S_S30000),
    StableHlo.TRef.binary (.of main_call53_v4 : StableHlo.TRef sig ⟨S30000, .i32⟩) (.of main_call53_v5 : StableHlo.TRef sig ⟨S30000, .i32⟩) (.of main_call53_v6 : StableHlo.TRef sig ⟨S30000, .i1⟩) (cmpi .ne),
    StableHlo.TRef.nullary (.of main_call53_c_2 : StableHlo.TRef sig ⟨S_, .i32⟩) (constantI S_ 32 0#32),
    StableHlo.TRef.unary (.of main_call53_c_2 : StableHlo.TRef sig ⟨S_, .i32⟩) (.of main_call53_v7 : StableHlo.TRef sig ⟨S30000, .i32⟩) (broadcastInDim S30000 ![] bcast_S_S30000),
    StableHlo.TRef.binary (.of main_call53_v4 : StableHlo.TRef sig ⟨S30000, .i32⟩) (.of main_call53_v7 : StableHlo.TRef sig ⟨S30000, .i32⟩) (.of main_call53_v8 : StableHlo.TRef sig ⟨S30000, .i1⟩) (cmpi .slt),
    StableHlo.TRef.nullary (.of main_call53_c_3 : StableHlo.TRef sig ⟨S_, .i32⟩) (constantI S_ 32 0#32),
    StableHlo.TRef.binary main_call53_call0.v0 (.of main_call53_c_3 : StableHlo.TRef sig ⟨S_, .i32⟩) (.of main_call53_v9 : StableHlo.TRef sig ⟨S_, .i1⟩) (cmpi .slt),
    StableHlo.TRef.unary (.of main_call53_v9 : StableHlo.TRef sig ⟨S_, .i1⟩) (.of main_call53_v10 : StableHlo.TRef sig ⟨S30000, .i1⟩) (broadcastInDim S30000 ![] bcast_S_S30000),
    StableHlo.TRef.binary (.of main_call53_v8 : StableHlo.TRef sig ⟨S30000, .i1⟩) (.of main_call53_v10 : StableHlo.TRef sig ⟨S30000, .i1⟩) (.of main_call53_v11 : StableHlo.TRef sig ⟨S30000, .i1⟩) (cmpi .ne),
    StableHlo.TRef.binary (.of main_call53_v11 : StableHlo.TRef sig ⟨S30000, .i1⟩) (.of main_call53_v6 : StableHlo.TRef sig ⟨S30000, .i1⟩) (.of main_call53_v12 : StableHlo.TRef sig ⟨S30000, .i1⟩) andi,
    StableHlo.TRef.unary main_call53_call0.v0 (.of main_call53_v13 : StableHlo.TRef sig ⟨S30000, .i32⟩) (broadcastInDim S30000 ![] bcast_S_S30000),
    StableHlo.TRef.binary (.of main_call53_v4 : StableHlo.TRef sig ⟨S30000, .i32⟩) (.of main_call53_v13 : StableHlo.TRef sig ⟨S30000, .i32⟩) (.of main_call53_v14 : StableHlo.TRef sig ⟨S30000, .i32⟩) addi,
    StableHlo.TRef.ternary (.of main_call53_v12 : StableHlo.TRef sig ⟨S30000, .i1⟩) (.of main_call53_v14 : StableHlo.TRef sig ⟨S30000, .i32⟩) (.of main_call53_v4 : StableHlo.TRef sig ⟨S30000, .i32⟩) (.of main_v464 : StableHlo.TRef sig ⟨S30000, .i32⟩) select,
    StableHlo.nullary main_c_185 (constantI S_ 32 4294967295#32),
    StableHlo.TRef.unary (.of main_c_185 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S30000, .i32⟩) (broadcastInDim S30000 ![] bcast_S_S30000),
    StableHlo.TRef.ternary (.of main_v462 : StableHlo.TRef sig ⟨S30000, .i1⟩) (.of main_v464 : StableHlo.TRef sig ⟨S30000, .i32⟩) (.of main_call54_v1 : StableHlo.TRef sig ⟨S30000, .i32⟩) (.of main_v465 : StableHlo.TRef sig ⟨S30000, .i32⟩) select,
    StableHlo.nullary main_c_186 (constantI S_ 32 0#32),
    StableHlo.unary main_c_186 main_v466 (broadcastInDim S30000 ![] bcast_S_S30000 : (⟨S_, .i32⟩ : BufTy).Contents (Elt F) → (⟨S30000, .i32⟩ : BufTy).Contents (Elt F)),
    StableHlo.binary main_v456 main_v466 main_v467 (cmpi .sge : (⟨S30000, .i32⟩ : BufTy).Contents (Elt F) → (⟨S30000, .i32⟩ : BufTy).Contents (Elt F) → (⟨S30000, .i1⟩ : BufTy).Contents (Elt F)),
    StableHlo.nullary main_c_187 (constantI S_ 32 512#32),
    StableHlo.TRef.unary (.of main_c_187 : StableHlo.TRef sig ⟨S_, .i32⟩) (.of main_call55_v0 : StableHlo.TRef sig ⟨S_, .i32⟩) id,
    StableHlo.TRef.nullary (.of main_call55_c : StableHlo.TRef sig ⟨S_, .i32⟩) (constantI S_ 32 0#32),
    StableHlo.TRef.binary (.of main_call55_v0 : StableHlo.TRef sig ⟨S_, .i32⟩) (.of main_call55_c : StableHlo.TRef sig ⟨S_, .i32⟩) (.of main_call55_v1 : StableHlo.TRef sig ⟨S_, .i1⟩) (cmpi .eq),
    StableHlo.TRef.nullary (.of main_call55_c_0 : StableHlo.TRef sig ⟨S_, .i32⟩) (constantI S_ 32 1#32),
    StableHlo.TRef.ternary (.of main_call55_v1 : StableHlo.TRef sig ⟨S_, .i1⟩) (.of main_call55_c_0 : StableHlo.TRef sig ⟨S_, .i32⟩) (.of main_call55_v0 : StableHlo.TRef sig ⟨S_, .i32⟩) (.of main_call55_v2 : StableHlo.TRef sig ⟨S_, .i32⟩) select,
    StableHlo.TRef.unary main_call55_call0.v0 (.of main_call55_v3 : StableHlo.TRef sig ⟨S30000, .i32⟩) (broadcastInDim S30000 ![] bcast_S_S30000),
    StableHlo.TRef.binary (.of main_v456 : StableHlo.TRef sig ⟨S30000, .i32⟩) (.of main_call55_v3 : StableHlo.TRef sig ⟨S30000, .i32⟩) (.of main_call55_v4 : StableHlo.TRef sig ⟨S30000, .i32⟩) Host.remsi,
    StableHlo.TRef.nullary (.of main_call55_c_1 : StableHlo.TRef sig ⟨S_, .i32⟩) (constantI S_ 32 0#32),
    StableHlo.TRef.unary (.of main_call55_c_1 : StableHlo.TRef sig ⟨S_, .i32⟩) (.of main_call55_v5 : StableHlo.TRef sig ⟨S30000, .i32⟩) (broadcastInDim S30000 ![] bcast_S_S30000),
    StableHlo.TRef.binary (.of main_call55_v4 : StableHlo.TRef sig ⟨S30000, .i32⟩) (.of main_call55_v5 : StableHlo.TRef sig ⟨S30000, .i32⟩) (.of main_call55_v6 : StableHlo.TRef sig ⟨S30000, .i1⟩) (cmpi .ne),
    StableHlo.TRef.nullary (.of main_call55_c_2 : StableHlo.TRef sig ⟨S_, .i32⟩) (constantI S_ 32 0#32),
    StableHlo.TRef.unary (.of main_call55_c_2 : StableHlo.TRef sig ⟨S_, .i32⟩) (.of main_call55_v7 : StableHlo.TRef sig ⟨S30000, .i32⟩) (broadcastInDim S30000 ![] bcast_S_S30000),
    StableHlo.TRef.binary (.of main_call55_v4 : StableHlo.TRef sig ⟨S30000, .i32⟩) (.of main_call55_v7 : StableHlo.TRef sig ⟨S30000, .i32⟩) (.of main_call55_v8 : StableHlo.TRef sig ⟨S30000, .i1⟩) (cmpi .slt),
    StableHlo.TRef.nullary (.of main_call55_c_3 : StableHlo.TRef sig ⟨S_, .i32⟩) (constantI S_ 32 0#32),
    StableHlo.TRef.binary main_call55_call0.v0 (.of main_call55_c_3 : StableHlo.TRef sig ⟨S_, .i32⟩) (.of main_call55_v9 : StableHlo.TRef sig ⟨S_, .i1⟩) (cmpi .slt),
    StableHlo.TRef.unary (.of main_call55_v9 : StableHlo.TRef sig ⟨S_, .i1⟩) (.of main_call55_v10 : StableHlo.TRef sig ⟨S30000, .i1⟩) (broadcastInDim S30000 ![] bcast_S_S30000),
    StableHlo.TRef.binary (.of main_call55_v8 : StableHlo.TRef sig ⟨S30000, .i1⟩) (.of main_call55_v10 : StableHlo.TRef sig ⟨S30000, .i1⟩) (.of main_call55_v11 : StableHlo.TRef sig ⟨S30000, .i1⟩) (cmpi .ne),
    StableHlo.TRef.binary (.of main_call55_v11 : StableHlo.TRef sig ⟨S30000, .i1⟩) (.of main_call55_v6 : StableHlo.TRef sig ⟨S30000, .i1⟩) (.of main_call55_v12 : StableHlo.TRef sig ⟨S30000, .i1⟩) andi,
    StableHlo.TRef.unary main_call55_call0.v0 (.of main_call55_v13 : StableHlo.TRef sig ⟨S30000, .i32⟩) (broadcastInDim S30000 ![] bcast_S_S30000),
    StableHlo.TRef.binary (.of main_call55_v4 : StableHlo.TRef sig ⟨S30000, .i32⟩) (.of main_call55_v13 : StableHlo.TRef sig ⟨S30000, .i32⟩) (.of main_call55_v14 : StableHlo.TRef sig ⟨S30000, .i32⟩) addi,
    StableHlo.TRef.ternary (.of main_call55_v12 : StableHlo.TRef sig ⟨S30000, .i1⟩) (.of main_call55_v14 : StableHlo.TRef sig ⟨S30000, .i32⟩) (.of main_call55_v4 : StableHlo.TRef sig ⟨S30000, .i32⟩) (.of main_v468 : StableHlo.TRef sig ⟨S30000, .i32⟩) select,
    StableHlo.nullary main_c_188 (constantI S_ 32 4294967295#32),
    StableHlo.TRef.unary (.of main_c_188 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S30000, .i32⟩) (broadcastInDim S30000 ![] bcast_S_S30000),
    StableHlo.TRef.ternary (.of main_v467 : StableHlo.TRef sig ⟨S30000, .i1⟩) (.of main_v468 : StableHlo.TRef sig ⟨S30000, .i32⟩) (.of main_call56_v1 : StableHlo.TRef sig ⟨S30000, .i32⟩) (.of main_v469 : StableHlo.TRef sig ⟨S30000, .i32⟩) select,
    StableHlo.unary main_v460 main_v470 (broadcastInDim S30000x1 ![0] bcast_S30000_S30000x1_0 : (⟨S30000, .i32⟩ : BufTy).Contents (Elt F) → (⟨S30000x1, .i32⟩ : BufTy).Contents (Elt F)),
    StableHlo.unary main_v465 main_v471 (broadcastInDim S30000x1 ![0] bcast_S30000_S30000x1_0 : (⟨S30000, .i32⟩ : BufTy).Contents (Elt F) → (⟨S30000x1, .i32⟩ : BufTy).Contents (Elt F)),
    StableHlo.unary main_v469 main_v472 (broadcastInDim S30000x1 ![0] bcast_S30000_S30000x1_0 : (⟨S30000, .i32⟩ : BufTy).Contents (Elt F) → (⟨S30000x1, .i32⟩ : BufTy).Contents (Elt F)),
    StableHlo.nary ![main_v470, main_v471, main_v472] main_v473 (fun u => concatenate S30000x3 1 [⟨S30000x1, u 0⟩, ⟨S30000x1, u 1⟩, ⟨S30000x1, u 2⟩] concatenates_S30000x1_S30000x1_S30000x1_S30000x3_d1),
    StableHlo.nullary main_c_189 (constantI S_ 32 2#32),
    StableHlo.unary main_c_189 main_v474 (broadcastInDim S30000x1 ![] bcast_S_S30000x1 : (⟨S_, .i32⟩ : BufTy).Contents (Elt F) → (⟨S30000x1, .i32⟩ : BufTy).Contents (Elt F)),
    StableHlo.binary main_v474 main_v473 main_v475 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- Batch 3: its row of cell ids sliced out, the validity mask recomputed from it, and everything downstream. -/
abbrev ks3 : List (HloOp τ sig (Elt F)) :=
  [ StableHlo.unary main_v64 main_v476 ((extractStridedSlice S1x300000 ![3, 0] · slices_S4x300000_S1x300000_3_0) : (⟨S4x300000, .i32⟩ : BufTy).Contents (Elt F) → (⟨S1x300000, .i32⟩ : BufTy).Contents (Elt F)),
    StableHlo.reshape main_v476 main_v477 rfl shapeCasts_S1x300000_S300000,
    StableHlo.nullary main_c_190 (constantI S_ 32 262144#32),
    StableHlo.unary main_c_190 main_v478 (broadcastInDim S300000 ![] bcast_S_S300000 : (⟨S_, .i32⟩ : BufTy).Contents (Elt F) → (⟨S300000, .i32⟩ : BufTy).Contents (Elt F)),
    StableHlo.binary main_v477 main_v478 main_v479 (cmpi .ne : (⟨S300000, .i32⟩ : BufTy).Contents (Elt F) → (⟨S300000, .i32⟩ : BufTy).Contents (Elt F) → (⟨S300000, .i1⟩ : BufTy).Contents (Elt F)),
    StableHlo.nullary main_v480 (iotaInDim S300000 32 0),
    StableHlo.nullary main_c_191 (constantI S_ 32 300000#32),
    StableHlo.unary main_c_191 main_v481 (broadcastInDim S262145 ![] bcast_S_S262145 : (⟨S_, .i32⟩ : BufTy).Contents (Elt F) → (⟨S262145, .i32⟩ : BufTy).Contents (Elt F)),
    StableHlo.nullary main_c_192 (constantI S_ 32 0#32),
    StableHlo.unary main_c_192 main_v482 (broadcastInDim S300000 ![] bcast_S_S300000 : (⟨S_, .i32⟩ : BufTy).Contents (Elt F) → (⟨S300000, .i32⟩ : BufTy).Contents (Elt F)),
    StableHlo.binary main_v477 main_v482 main_v483 (cmpi .slt : (⟨S300000, .i32⟩ : BufTy).Contents (Elt F) → (⟨S300000, .i32⟩ : BufTy).Contents (Elt F) → (⟨S300000, .i1⟩ : BufTy).Contents (Elt F)),
    StableHlo.nullary main_c_193 (constantI S_ 32 262145#32),
    StableHlo.unary main_c_193 main_v484 (broadcastInDim S300000 ![] bcast_S_S300000 : (⟨S_, .i32⟩ : BufTy).Contents (Elt F) → (⟨S300000, .i32⟩ : BufTy).Contents (Elt F)),
    StableHlo.binary main_v477 main_v484 main_v485 (addi : (⟨S300000, .i32⟩ : BufTy).Contents (Elt F) → (⟨S300000, .i32⟩ : BufTy).Contents (Elt F) → (⟨S300000, .i32⟩ : BufTy).Contents (Elt F)),
    StableHlo.ternary main_v483 main_v485 main_v477 main_v486 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v486 main_v487 (broadcastInDim S300000x1 ![0] bcast_S300000_S300000x1_0 : (⟨S300000, .i32⟩ : BufTy).Contents (Elt F) → (⟨S300000x1, .i32⟩ : BufTy).Contents (Elt F)),
    StableHlo.ternary main_v481 main_v487 main_v480 main_v488 ((fun x i u => Host.scatter scatter_S262145_S300000x1_S300000_n_0_0_1 IntOp.minsi x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_194 (constantI S_ 32 0#32),
    StableHlo.unary main_c_194 main_v489 (broadcastInDim S300000 ![] bcast_S_S300000 : (⟨S_, .i32⟩ : BufTy).Contents (Elt F) → (⟨S300000, .i32⟩ : BufTy).Contents (Elt F)),
    StableHlo.binary main_v477 main_v489 main_v490 (cmpi .slt : (⟨S300000, .i32⟩ : BufTy).Contents (Elt F) → (⟨S300000, .i32⟩ : BufTy).Contents (Elt F) → (⟨S300000, .i1⟩ : BufTy).Contents (Elt F)),
    StableHlo.nullary main_c_195 (constantI S_ 32 262145#32),
    StableHlo.unary main_c_195 main_v491 (broadcastInDim S300000 ![] bcast_S_S300000 : (⟨S_, .i32⟩ : BufTy).Contents (Elt F) → (⟨S300000, .i32⟩ : BufTy).Contents (Elt F)),
    StableHlo.binary main_v477 main_v491 main_v492 (addi : (⟨S300000, .i32⟩ : BufTy).Contents (Elt F) → (⟨S300000, .i32⟩ : BufTy).Contents (Elt F) → (⟨S300000, .i32⟩ : BufTy).Contents (Elt F)),
    StableHlo.ternary main_v490 main_v492 main_v477 main_v493 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v493 main_v494 (broadcastInDim S300000x1 ![0] bcast_S300000_S300000x1_0 : (⟨S300000, .i32⟩ : BufTy).Contents (Elt F) → (⟨S300000x1, .i32⟩ : BufTy).Contents (Elt F)),
    StableHlo.binary main_v488 main_v494 main_v495 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.binary main_v495 main_v480 main_v496 (cmpi .eq : (⟨S300000, .i32⟩ : BufTy).Contents (Elt F) → (⟨S300000, .i32⟩ : BufTy).Contents (Elt F) → (⟨S300000, .i1⟩ : BufTy).Contents (Elt F)),
    StableHlo.binary main_v479 main_v496 main_v497 (andi : (⟨S300000, .i1⟩ : BufTy).Contents (Elt F) → (⟨S300000, .i1⟩ : BufTy).Contents (Elt F) → (⟨S300000, .i1⟩ : BufTy).Contents (Elt F)),
    StableHlo.unary main_v497 main_v498 ((extui 32 · natLt_1_32) : (⟨S300000, .i1⟩ : BufTy).Contents (Elt F) → (⟨S300000, .i32⟩ : BufTy).Contents (Elt F)),
    StableHlo.TRef.nullary (.of main_call57_call0_c : StableHlo.TRef sig ⟨S_, .i32⟩) (constantI S_ 32 0#32),
    StableHlo.TRef.unary (.of main_call57_call0_c : StableHlo.TRef sig ⟨S_, .i32⟩) (.of main_call57_call0_v0 : StableHlo.TRef sig ⟨S_, .i32⟩) (broadcastInDim S_ ![] bcast_S_S_),
    StableHlo.TRef.binary (.of main_v498 : StableHlo.TRef sig ⟨S300000, .i32⟩) (.of main_call57_call0_v0 : StableHlo.TRef sig ⟨S_, .i32⟩) (.of main_v499 : StableHlo.TRef sig ⟨S300000, .i32⟩) (fun x v => Host.reduceWindow IntOp.addi ![300000] ![1] ![299999] ![0] x v reduceWindows_S300000_S300000_w300000s1p299999_0 h_S_),
    StableHlo.nullary main_c_196 (constantI S_ 32 1#32),
    StableHlo.unary main_c_196 main_v500 (broadcastInDim S300000 ![] bcast_S_S300000 : (⟨S_, .i32⟩ : BufTy).Contents (Elt F) → (⟨S300000, .i32⟩ : BufTy).Contents (Elt F)),
    StableHlo.binary main_v499 main_v500 main_v501 (subi : (⟨S300000, .i32⟩ : BufTy).Contents (Elt F) → (⟨S300000, .i32⟩ : BufTy).Contents (Elt F) → (⟨S300000, .i32⟩ : BufTy).Contents (Elt F)),
    StableHlo.nullary main_c_197 (constantI S_ 32 30000#32),
    StableHlo.unary main_c_197 main_v502 (broadcastInDim S262145 ![] bcast_S_S262145 : (⟨S_, .i32⟩ : BufTy).Contents (Elt F) → (⟨S262145, .i32⟩ : BufTy).Contents (Elt F)),
    StableHlo.nullary main_c_198 (constantI S_ 32 262144#32),
    StableHlo.TRef.unary (.of main_c_198 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S300000, .i32⟩) (broadcastInDim S300000 ![] bcast_S_S300000),
    StableHlo.TRef.ternary (.of main_v497 : StableHlo.TRef sig ⟨S300000, .i1⟩) (.of main_v477 : StableHlo.TRef sig ⟨S300000, .i32⟩) (.of main_call58_v1 : StableHlo.TRef sig ⟨S300000, .i32⟩) (.of main_v503 : StableHlo.TRef sig ⟨S300000, .i32⟩) select,
    StableHlo.nullary main_c_199 (constantI S_ 32 30000#32),
    StableHlo.unary main_c_199 main_v504 (broadcastInDim S300000 ![] bcast_S_S300000 : (⟨S_, .i32⟩ : BufTy).Contents (Elt F) → (⟨S300000, .i32⟩ : BufTy).Contents (Elt F)),
    StableHlo.binary main_v501 main_v504 main_v505 (minsi : (⟨S300000, .i32⟩ : BufTy).Contents (Elt F) → (⟨S300000, .i32⟩ : BufTy).Contents (Elt F) → (⟨S300000, .i32⟩ : BufTy).Contents (Elt F)),
    StableHlo.nullary main_c_200 (constantI S_ 32 30000#32),
    StableHlo.TRef.unary (.of main_c_200 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S300000, .i32⟩) (broadcastInDim S300000 ![] bcast_S_S300000),
    StableHlo.TRef.ternary (.of main_v497 : StableHlo.TRef sig ⟨S300000, .i1⟩) (.of main_v505 : StableHlo.TRef sig ⟨S300000, .i32⟩) (.of main_call59_v1 : StableHlo.TRef sig ⟨S300000, .i32⟩) (.of main_v506 : StableHlo.TRef sig ⟨S300000, .i32⟩) select,
    StableHlo.nullary main_c_201 (constantI S_ 32 0#32),
    StableHlo.unary main_c_201 main_v507 (broadcastInDim S300000 ![] bcast_S_S300000 : (⟨S_, .i32⟩ : BufTy).Contents (Elt F) → (⟨S300000, .i32⟩ : BufTy).Contents (Elt F)),
    StableHlo.binary main_v503 main_v507 main_v508 (cmpi .slt : (⟨S300000, .i32⟩ : BufTy).Contents (Elt F) → (⟨S300000, .i32⟩ : BufTy).Contents (Elt F) → (⟨S300000, .i1⟩ : BufTy).Contents (Elt F)),
    StableHlo.nullary main_c_202 (constantI S_ 32 262145#32),
    StableHlo.unary main_c_202 main_v509 (broadcastInDim S300000 ![] bcast_S_S300000 : (⟨S_, .i32⟩ : BufTy).Contents (Elt F) → (⟨S300000, .i32⟩ : BufTy).Contents (Elt F)),
    StableHlo.binary main_v503 main_v509 main_v510 (addi : (⟨S300000, .i32⟩ : BufTy).Contents (Elt F) → (⟨S300000, .i32⟩ : BufTy).Contents (Elt F) → (⟨S300000, .i32⟩ : BufTy).Contents (Elt F)),
    StableHlo.ternary main_v508 main_v510 main_v503 main_v511 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v511 main_v512 (broadcastInDim S300000x1 ![0] bcast_S300000_S300000x1_0 : (⟨S300000, .i32⟩ : BufTy).Contents (Elt F) → (⟨S300000x1, .i32⟩ : BufTy).Contents (Elt F)),
    StableHlo.ternary main_v502 main_v512 main_v506 main_v513 ((fun x i u => Host.scatter scatter_S262145_S300000x1_S300000_n_0_0_1 (fun _ b => b) x i u) : (⟨S262145, .i32⟩ : BufTy).Contents (Elt F) → (⟨S300000x1, .i32⟩ : BufTy).Contents (Elt F) → (⟨S300000, .i32⟩ : BufTy).Contents (Elt F) → (⟨S262145, .i32⟩ : BufTy).Contents (Elt F)),
    StableHlo.nullary main_c_203 (constantI S_ 32 0#32),
    StableHlo.unary main_c_203 main_v514 (broadcastInDim S300000 ![] bcast_S_S300000 : (⟨S_, .i32⟩ : BufTy).Contents (Elt F) → (⟨S300000, .i32⟩ : BufTy).Contents (Elt F)),
    StableHlo.binary main_v477 main_v514 main_v515 (cmpi .slt : (⟨S300000, .i32⟩ : BufTy).Contents (Elt F) → (⟨S300000, .i32⟩ : BufTy).Contents (Elt F) → (⟨S300000, .i1⟩ : BufTy).Contents (Elt F)),
    StableHlo.nullary main_c_204 (constantI S_ 32 262145#32),
    StableHlo.unary main_c_204 main_v516 (broadcastInDim S300000 ![] bcast_S_S300000 : (⟨S_, .i32⟩ : BufTy).Contents (Elt F) → (⟨S300000, .i32⟩ : BufTy).Contents (Elt F)),
    StableHlo.binary main_v477 main_v516 main_v517 (addi : (⟨S300000, .i32⟩ : BufTy).Contents (Elt F) → (⟨S300000, .i32⟩ : BufTy).Contents (Elt F) → (⟨S300000, .i32⟩ : BufTy).Contents (Elt F)),
    StableHlo.ternary main_v515 main_v517 main_v477 main_v518 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v518 main_v519 (broadcastInDim S300000x1 ![0] bcast_S300000_S300000x1_0 : (⟨S300000, .i32⟩ : BufTy).Contents (Elt F) → (⟨S300000x1, .i32⟩ : BufTy).Contents (Elt F)),
    StableHlo.binary main_v513 main_v519 main_v520 ((fun x i => Host.gather gather_S262145_S300000x1_S300000_n_0_n_n_0_1_1 x i) : (⟨S262145, .i32⟩ : BufTy).Contents (Elt F) → (⟨S300000x1, .i32⟩ : BufTy).Contents (Elt F) → (⟨S300000, .i32⟩ : BufTy).Contents (Elt F)),
    StableHlo.nullary main_c_205 (constantI S_ 32 30000#32),
    StableHlo.TRef.unary (.of main_c_205 : StableHlo.TRef sig ⟨S_, .i32⟩) (.of main_call60_v0 : StableHlo.TRef sig ⟨S_, .i32⟩) id,
    StableHlo.TRef.unary (.of main_call60_v0 : StableHlo.TRef sig ⟨S_, .i32⟩) (.of main_call60_v1 : StableHlo.TRef sig ⟨S300000, .i32⟩) (broadcastInDim S300000 ![] bcast_S_S300000),
    StableHlo.TRef.ternary (.of main_v479 : StableHlo.TRef sig ⟨S300000, .i1⟩) (.of main_v520 : StableHlo.TRef sig ⟨S300000, .i32⟩) (.of main_call60_v1 : StableHlo.TRef sig ⟨S300000, .i32⟩) (.of main_v521 : StableHlo.TRef sig ⟨S300000, .i32⟩) select,
    StableHlo.TRef.nullary (.of main_call61_v0 : StableHlo.TRef sig ⟨S300000, .i32⟩) (iotaInDim S300000 32 0),
    StableHlo.TRef.binary (.of main_v477 : StableHlo.TRef sig ⟨S300000, .i32⟩) (.of main_call61_v0 : StableHlo.TRef sig ⟨S300000, .i32⟩) (.of main_call61_v1_0 : StableHlo.TRef sig ⟨S300000, .i32⟩) (fun x y => (Host.sort2 S300000 0 comparator_i32_i32_d0 x y).1),
    StableHlo.TRef.binary (.of main_v477 : StableHlo.TRef sig ⟨S300000, .i32⟩) (.of main_call61_v0 : StableHlo.TRef sig ⟨S300000, .i32⟩) (.of main_v522 : StableHlo.TRef sig ⟨S300000, .i32⟩) (fun x y => (Host.sort2 S300000 0 comparator_i32_i32_d0 x y).2),
    StableHlo.nullary main_c_206 (constantI S_ 32 0#32),
    StableHlo.unary main_c_206 main_v523 (broadcastInDim S300000 ![] bcast_S_S300000 : (⟨S_, .i32⟩ : BufTy).Contents (Elt F) → (⟨S300000, .i32⟩ : BufTy).Contents (Elt F)),
    StableHlo.binary main_v522 main_v523 main_v524 (cmpi .slt : (⟨S300000, .i32⟩ : BufTy).Contents (Elt F) → (⟨S300000, .i32⟩ : BufTy).Contents (Elt F) → (⟨S300000, .i1⟩ : BufTy).Contents (Elt F)),
    StableHlo.nullary main_c_207 (constantI S_ 32 300000#32),
    StableHlo.unary main_c_207 main_v525 (broadcastInDim S300000 ![] bcast_S_S300000 : (⟨S_, .i32⟩ : BufTy).Contents (Elt F) → (⟨S300000, .i32⟩ : BufTy).Contents (Elt F)),
    StableHlo.binary main_v522 main_v525 main_v526 (addi : (⟨S300000, .i32⟩ : BufTy).Contents (Elt F) → (⟨S300000, .i32⟩ : BufTy).Contents (Elt F) → (⟨S300000, .i32⟩ : BufTy).Contents (Elt F)),
    StableHlo.ternary main_v524 main_v526 main_v522 main_v527 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v527 main_v528 (broadcastInDim S300000x1 ![0] bcast_S300000_S300000x1_0 : (⟨S300000, .i32⟩ : BufTy).Contents (Elt F) → (⟨S300000x1, .i32⟩ : BufTy).Contents (Elt F)),
    StableHlo.binary main_v477 main_v528 main_v529 ((fun x i => Host.gather gather_S300000_S300000x1_S300000_n_0_n_n_0_1_1 x i) : (⟨S300000, .i32⟩ : BufTy).Contents (Elt F) → (⟨S300000x1, .i32⟩ : BufTy).Contents (Elt F) → (⟨S300000, .i32⟩ : BufTy).Contents (Elt F)),
    StableHlo.nullary main_c_208 (constantI S_ 1 1#1),
    StableHlo.unary main_c_208 main_v530 (broadcastInDim S1 ![] bcast_S_S1 : (⟨S_, .i1⟩ : BufTy).Contents (Elt F) → (⟨S1, .i1⟩ : BufTy).Contents (Elt F)),
    StableHlo.unary main_v529 main_v531 ((extractStridedSlice S299999 ![1] · slices_S300000_S299999_1) : (⟨S300000, .i32⟩ : BufTy).Contents (Elt F) → (⟨S299999, .i32⟩ : BufTy).Contents (Elt F)),
    StableHlo.unary main_v529 main_v532 ((extractStridedSlice S299999 ![0] · slices_S300000_S299999_0) : (⟨S300000, .i32⟩ : BufTy).Contents (Elt F) → (⟨S299999, .i32⟩ : BufTy).Contents (Elt F)),
    StableHlo.binary main_v531 main_v532 main_v533 (cmpi .ne : (⟨S299999, .i32⟩ : BufTy).Contents (Elt F) → (⟨S299999, .i32⟩ : BufTy).Contents (Elt F) → (⟨S299999, .i1⟩ : BufTy).Contents (Elt F)),
    StableHlo.binary main_v530 main_v533 main_v534 ((fun a b => concatenate S300000 0 [⟨S1, a⟩, ⟨S299999, b⟩] concatenates_S1_S299999_S300000_d0) : (⟨S1, .i1⟩ : BufTy).Contents (Elt F) → (⟨S299999, .i1⟩ : BufTy).Contents (Elt F) → (⟨S300000, .i1⟩ : BufTy).Contents (Elt F)),
    StableHlo.nullary main_c_209 (constantI S_ 32 0#32),
    StableHlo.TRef.unary (.of main_c_209 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S300000, .i32⟩) (broadcastInDim S300000 ![] bcast_S_S300000),
    StableHlo.TRef.ternary (.of main_v534 : StableHlo.TRef sig ⟨S300000, .i1⟩) (.of main_v480 : StableHlo.TRef sig ⟨S300000, .i32⟩) (.of main_call62_v1 : StableHlo.TRef sig ⟨S300000, .i32⟩) (.of main_v535 : StableHlo.TRef sig ⟨S300000, .i32⟩) select,
    StableHlo.TRef.nullary (.of main_call63_c : StableHlo.TRef sig ⟨S_, .i32⟩) (constantI S_ 32 2147483648#32),
    StableHlo.TRef.unary (.of main_call63_c : StableHlo.TRef sig ⟨S_, .i32⟩) (.of main_call63_v0 : StableHlo.TRef sig ⟨S_, .i32⟩) (broadcastInDim S_ ![] bcast_S_S_),
    StableHlo.TRef.binary (.of main_v535 : StableHlo.TRef sig ⟨S300000, .i32⟩) (.of main_call63_v0 : StableHlo.TRef sig ⟨S_, .i32⟩) (.of main_v536 : StableHlo.TRef sig ⟨S300000, .i32⟩) (fun x v => Host.reduceWindow IntOp.maxsi ![300000] ![1] ![299999] ![0] x v reduceWindows_S300000_S300000_w300000s1p299999_0 h_S_),
    StableHlo.nullary main_c_210 (constantI S_ 32 0#32),
    StableHlo.unary main_c_210 main_v537 (broadcastInDim S300000 ![] bcast_S_S300000 : (⟨S_, .i32⟩ : BufTy).Contents (Elt F) → (⟨S300000, .i32⟩ : BufTy).Contents (Elt F)),
    StableHlo.binary main_v480 main_v536 main_v538 (subi : (⟨S300000, .i32⟩ : BufTy).Contents (Elt F) → (⟨S300000, .i32⟩ : BufTy).Contents (Elt F) → (⟨S300000, .i32⟩ : BufTy).Contents (Elt F)),
    StableHlo.nullary main_c_211 (constantI S_ 32 0#32),
    StableHlo.unary main_c_211 main_v539 (broadcastInDim S300000 ![] bcast_S_S300000 : (⟨S_, .i32⟩ : BufTy).Contents (Elt F) → (⟨S300000, .i32⟩ : BufTy).Contents (Elt F)),
    StableHlo.binary main_v522 main_v539 main_v540 (cmpi .slt : (⟨S300000, .i32⟩ : BufTy).Contents (Elt F) → (⟨S300000, .i32⟩ : BufTy).Contents (Elt F) → (⟨S300000, .i1⟩ : BufTy).Contents (Elt F)),
    StableHlo.nullary main_c_212 (constantI S_ 32 300000#32),
    StableHlo.unary main_c_212 main_v541 (broadcastInDim S300000 ![] bcast_S_S300000 : (⟨S_, .i32⟩ : BufTy).Contents (Elt F) → (⟨S300000, .i32⟩ : BufTy).Contents (Elt F)),
    StableHlo.binary main_v522 main_v541 main_v542 (addi : (⟨S300000, .i32⟩ : BufTy).Contents (Elt F) → (⟨S300000, .i32⟩ : BufTy).Contents (Elt F) → (⟨S300000, .i32⟩ : BufTy).Contents (Elt F)),
    StableHlo.ternary main_v540 main_v542 main_v522 main_v543 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v543 main_v544 (broadcastInDim S300000x1 ![0] bcast_S300000_S300000x1_0 : (⟨S300000, .i32⟩ : BufTy).Contents (Elt F) → (⟨S300000x1, .i32⟩ : BufTy).Contents (Elt F)),
    StableHlo.ternary main_v537 main_v544 main_v538 main_v545 ((fun x i u => Host.scatter scatter_S300000_S300000x1_S300000_n_0_0_1 (fun _ b => b) x i u) : (⟨S300000, .i32⟩ : BufTy).Contents (Elt F) → (⟨S300000x1, .i32⟩ : BufTy).Contents (Elt F) → (⟨S300000, .i32⟩ : BufTy).Contents (Elt F) → (⟨S300000, .i32⟩ : BufTy).Contents (Elt F)),
    StableHlo.nullary main_c_213 (constantI S_ 32 30000#32),
    StableHlo.unary main_c_213 main_v546 (broadcastInDim S300000 ![] bcast_S_S300000 : (⟨S_, .i32⟩ : BufTy).Contents (Elt F) → (⟨S300000, .i32⟩ : BufTy).Contents (Elt F)),
    StableHlo.binary main_v521 main_v546 main_v547 (cmpi .slt : (⟨S300000, .i32⟩ : BufTy).Contents (Elt F) → (⟨S300000, .i32⟩ : BufTy).Contents (Elt F) → (⟨S300000, .i1⟩ : BufTy).Contents (Elt F)),
    StableHlo.binary main_v479 main_v547 main_v548 (andi : (⟨S300000, .i1⟩ : BufTy).Contents (Elt F) → (⟨S300000, .i1⟩ : BufTy).Contents (Elt F) → (⟨S300000, .i1⟩ : BufTy).Contents (Elt F)),
    StableHlo.nullary main_c_214 (constantI S_ 32 20#32),
    StableHlo.unary main_c_214 main_v549 (broadcastInDim S300000 ![] bcast_S_S300000 : (⟨S_, .i32⟩ : BufTy).Contents (Elt F) → (⟨S300000, .i32⟩ : BufTy).Contents (Elt F)),
    StableHlo.binary main_v545 main_v549 main_v550 (cmpi .slt : (⟨S300000, .i32⟩ : BufTy).Contents (Elt F) → (⟨S300000, .i32⟩ : BufTy).Contents (Elt F) → (⟨S300000, .i1⟩ : BufTy).Contents (Elt F)),
    StableHlo.binary main_v548 main_v550 main_v551 (andi : (⟨S300000, .i1⟩ : BufTy).Contents (Elt F) → (⟨S300000, .i1⟩ : BufTy).Contents (Elt F) → (⟨S300000, .i1⟩ : BufTy).Contents (Elt F)),
    StableHlo.nullary main_c_215 (constantI S_ 32 30000#32),
    StableHlo.TRef.unary (.of main_c_215 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S300000, .i32⟩) (broadcastInDim S300000 ![] bcast_S_S300000),
    StableHlo.TRef.ternary (.of main_v551 : StableHlo.TRef sig ⟨S300000, .i1⟩) (.of main_v521 : StableHlo.TRef sig ⟨S300000, .i32⟩) (.of main_call64_v1 : StableHlo.TRef sig ⟨S300000, .i32⟩) (.of main_v552 : StableHlo.TRef sig ⟨S300000, .i32⟩) select,
    StableHlo.nullary main_c_216 (constantI S_ 32 0#32),
    StableHlo.TRef.unary (.of main_c_216 : StableHlo.TRef sig ⟨S_, .i32⟩) (.of main_call65_v0 : StableHlo.TRef sig ⟨S_, .i32⟩) id,
    StableHlo.TRef.unary (.of main_call65_v0 : StableHlo.TRef sig ⟨S_, .i32⟩) (.of main_call65_v1 : StableHlo.TRef sig ⟨S300000, .i32⟩) (broadcastInDim S300000 ![] bcast_S_S300000),
    StableHlo.TRef.ternary (.of main_v551 : StableHlo.TRef sig ⟨S300000, .i1⟩) (.of main_v545 : StableHlo.TRef sig ⟨S300000, .i32⟩) (.of main_call65_v1 : StableHlo.TRef sig ⟨S300000, .i32⟩) (.of main_v553 : StableHlo.TRef sig ⟨S300000, .i32⟩) select,
    StableHlo.nullary main_cst_217 (constant S_ .f32 0x00000000#32),
    StableHlo.unary main_cst_217 main_v554 (broadcastInDim S30001x20x5 ![] bcast_S_S30001x20x5 : (⟨S_, .f32⟩ : BufTy).Contents (Elt F) → (⟨S30001x20x5, .f32⟩ : BufTy).Contents (Elt F)),
    StableHlo.unary main_v551 main_v555 (broadcastInDim S300000x1 ![0] bcast_S300000_S300000x1_0 : (⟨S300000, .i1⟩ : BufTy).Contents (Elt F) → (⟨S300000x1, .i1⟩ : BufTy).Contents (Elt F)),
    StableHlo.nullary main_cst_218 (constant S_ .f32 0x00000000#32),
    StableHlo.TRef.unary (.of main_cst_218 : StableHlo.TRef sig ⟨S_, .f32⟩) (.of main_call66_v0 : StableHlo.TRef sig ⟨S_, .f32⟩) id,
    StableHlo.TRef.unary (.of main_v555 : StableHlo.TRef sig ⟨S300000x1, .i1⟩) (.of main_call66_v1 : StableHlo.TRef sig ⟨S300000x5, .i1⟩) (broadcastInDim S300000x5 ![0, 1] bcast_S300000x1_S300000x5_0_1),
    StableHlo.TRef.unary (.of main_call66_v0 : StableHlo.TRef sig ⟨S_, .f32⟩) (.of main_call66_v2 : StableHlo.TRef sig ⟨S300000x5, .f32⟩) (broadcastInDim S300000x5 ![] bcast_S_S300000x5),
    StableHlo.TRef.ternary (.of main_call66_v1 : StableHlo.TRef sig ⟨S300000x5, .i1⟩) (.of main_v55 : StableHlo.TRef sig ⟨S300000x5, .f32⟩) (.of main_call66_v2 : StableHlo.TRef sig ⟨S300000x5, .f32⟩) (.of main_v556 : StableHlo.TRef sig ⟨S300000x5, .f32⟩) select,
    StableHlo.nullary main_c_219 (constantI S_ 32 0#32),
    StableHlo.unary main_c_219 main_v557 (broadcastInDim S300000 ![] bcast_S_S300000 : (⟨S_, .i32⟩ : BufTy).Contents (Elt F) → (⟨S300000, .i32⟩ : BufTy).Contents (Elt F)),
    StableHlo.binary main_v552 main_v557 main_v558 (cmpi .slt : (⟨S300000, .i32⟩ : BufTy).Contents (Elt F) → (⟨S300000, .i32⟩ : BufTy).Contents (Elt F) → (⟨S300000, .i1⟩ : BufTy).Contents (Elt F)),
    StableHlo.nullary main_c_220 (constantI S_ 32 30001#32),
    StableHlo.unary main_c_220 main_v559 (broadcastInDim S300000 ![] bcast_S_S300000 : (⟨S_, .i32⟩ : BufTy).Contents (Elt F) → (⟨S300000, .i32⟩ : BufTy).Contents (Elt F)),
    StableHlo.binary main_v552 main_v559 main_v560 (addi : (⟨S300000, .i32⟩ : BufTy).Contents (Elt F) → (⟨S300000, .i32⟩ : BufTy).Contents (Elt F) → (⟨S300000, .i32⟩ : BufTy).Contents (Elt F)),
    StableHlo.ternary main_v558 main_v560 main_v552 main_v561 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.nullary main_c_221 (constantI S_ 32 0#32),
    StableHlo.unary main_c_221 main_v562 (broadcastInDim S300000 ![] bcast_S_S300000 : (⟨S_, .i32⟩ : BufTy).Contents (Elt F) → (⟨S300000, .i32⟩ : BufTy).Contents (Elt F)),
    StableHlo.binary main_v553 main_v562 main_v563 (cmpi .slt : (⟨S300000, .i32⟩ : BufTy).Contents (Elt F) → (⟨S300000, .i32⟩ : BufTy).Contents (Elt F) → (⟨S300000, .i1⟩ : BufTy).Contents (Elt F)),
    StableHlo.nullary main_c_222 (constantI S_ 32 20#32),
    StableHlo.unary main_c_222 main_v564 (broadcastInDim S300000 ![] bcast_S_S300000 : (⟨S_, .i32⟩ : BufTy).Contents (Elt F) → (⟨S300000, .i32⟩ : BufTy).Contents (Elt F)),
    StableHlo.binary main_v553 main_v564 main_v565 (addi : (⟨S300000, .i32⟩ : BufTy).Contents (Elt F) → (⟨S300000, .i32⟩ : BufTy).Contents (Elt F) → (⟨S300000, .i32⟩ : BufTy).Contents (Elt F)),
    StableHlo.ternary main_v563 main_v565 main_v553 main_v566 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v561 main_v567 (broadcastInDim S300000x1 ![0] bcast_S300000_S300000x1_0 : (⟨S300000, .i32⟩ : BufTy).Contents (Elt F) → (⟨S300000x1, .i32⟩ : BufTy).Contents (Elt F)),
    StableHlo.unary main_v566 main_v568 (broadcastInDim S300000x1 ![0] bcast_S300000_S300000x1_0 : (⟨S300000, .i32⟩ : BufTy).Contents (Elt F) → (⟨S300000x1, .i32⟩ : BufTy).Contents (Elt F)),
    StableHlo.binary main_v567 main_v568 main_v569 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    StableHlo.ternary main_v554 main_v569 main_v556 main_v570 ((fun x i u => Host.scatter scatter_S30001x20x5_S300000x2_S300000x5_1_01_01_1 (fun _ b => b) x i u) : (⟨S30001x20x5, .f32⟩ : BufTy).Contents (Elt F) → (⟨S300000x2, .i32⟩ : BufTy).Contents (Elt F) → (⟨S300000x5, .f32⟩ : BufTy).Contents (Elt F) → (⟨S30001x20x5, .f32⟩ : BufTy).Contents (Elt F)),
    StableHlo.unary main_v570 main_v571 ((extractStridedSlice S30000x20x5 ![0, 0, 0] · slices_S30001x20x5_S30000x20x5_0_0_0) : (⟨S30001x20x5, .f32⟩ : BufTy).Contents (Elt F) → (⟨S30000x20x5, .f32⟩ : BufTy).Contents (Elt F)),
    StableHlo.unary main_v551 main_v572 ((extui 32 · natLt_1_32) : (⟨S300000, .i1⟩ : BufTy).Contents (Elt F) → (⟨S300000, .i32⟩ : BufTy).Contents (Elt F)),
    StableHlo.nullary main_c_223 (constantI S_ 32 0#32),
    StableHlo.unary main_c_223 main_v573 (broadcastInDim S30001 ![] bcast_S_S30001 : (⟨S_, .i32⟩ : BufTy).Contents (Elt F) → (⟨S30001, .i32⟩ : BufTy).Contents (Elt F)),
    StableHlo.unary main_v552 main_v574 (broadcastInDim S300000x1 ![0] bcast_S300000_S300000x1_0 : (⟨S300000, .i32⟩ : BufTy).Contents (Elt F) → (⟨S300000x1, .i32⟩ : BufTy).Contents (Elt F)),
    StableHlo.ternary main_v573 main_v574 main_v572 main_v575 ((fun x i u => Host.scatter scatter_S30001_S300000x1_S300000_n_0_0_1 IntOp.addi x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v575 main_v576 ((extractStridedSlice S30000 ![0] · slices_S30001_S30000_0) : (⟨S30001, .i32⟩ : BufTy).Contents (Elt F) → (⟨S30000, .i32⟩ : BufTy).Contents (Elt F)),
    StableHlo.nullary main_c_224 (constantI S_ 32 4294967295#32),
    StableHlo.unary main_c_224 main_v577 (broadcastInDim S30001 ![] bcast_S_S30001 : (⟨S_, .i32⟩ : BufTy).Contents (Elt F) → (⟨S30001, .i32⟩ : BufTy).Contents (Elt F)),
    StableHlo.nullary main_c_225 (constantI S_ 32 30000#32),
    StableHlo.unary main_c_225 main_v578 (broadcastInDim S300000 ![] bcast_S_S300000 : (⟨S_, .i32⟩ : BufTy).Contents (Elt F) → (⟨S300000, .i32⟩ : BufTy).Contents (Elt F)),
    StableHlo.binary main_v501 main_v578 main_v579 (cmpi .slt : (⟨S300000, .i32⟩ : BufTy).Contents (Elt F) → (⟨S300000, .i32⟩ : BufTy).Contents (Elt F) → (⟨S300000, .i1⟩ : BufTy).Contents (Elt F)),
    StableHlo.binary main_v497 main_v579 main_v580 (andi : (⟨S300000, .i1⟩ : BufTy).Contents (Elt F) → (⟨S300000, .i1⟩ : BufTy).Contents (Elt F) → (⟨S300000, .i1⟩ : BufTy).Contents (Elt F)),
    StableHlo.nullary main_c_226 (constantI S_ 32 30000#32),
    StableHlo.TRef.unary (.of main_c_226 : StableHlo.TRef sig ⟨S_, .i32⟩) (.of main_call67_v0 : StableHlo.TRef sig ⟨S_, .i32⟩) id,
    StableHlo.TRef.unary (.of main_call67_v0 : StableHlo.TRef sig ⟨S_, .i32⟩) (.of main_call67_v1 : StableHlo.TRef sig ⟨S300000, .i32⟩) (broadcastInDim S300000 ![] bcast_S_S300000),
    StableHlo.TRef.ternary (.of main_v580 : StableHlo.TRef sig ⟨S300000, .i1⟩) (.of main_v501 : StableHlo.TRef sig ⟨S300000, .i32⟩) (.of main_call67_v1 : StableHlo.TRef sig ⟨S300000, .i32⟩) (.of main_v581 : StableHlo.TRef sig ⟨S300000, .i32⟩) select,
    StableHlo.nullary main_c_227 (constantI S_ 32 30000#32),
    StableHlo.unary main_c_227 main_v582 (broadcastInDim S300000 ![] bcast_S_S300000 : (⟨S_, .i32⟩ : BufTy).Contents (Elt F) → (⟨S300000, .i32⟩ : BufTy).Contents (Elt F)),
    StableHlo.binary main_v501 main_v582 main_v583 (cmpi .slt : (⟨S300000, .i32⟩ : BufTy).Contents (Elt F) → (⟨S300000, .i32⟩ : BufTy).Contents (Elt F) → (⟨S300000, .i1⟩ : BufTy).Contents (Elt F)),
    StableHlo.binary main_v497 main_v583 main_v584 (andi : (⟨S300000, .i1⟩ : BufTy).Contents (Elt F) → (⟨S300000, .i1⟩ : BufTy).Contents (Elt F) → (⟨S300000, .i1⟩ : BufTy).Contents (Elt F)),
    StableHlo.nullary main_c_228 (constantI S_ 32 4294967295#32),
    StableHlo.TRef.unary (.of main_c_228 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S300000, .i32⟩) (broadcastInDim S300000 ![] bcast_S_S300000),
    StableHlo.TRef.ternary (.of main_v584 : StableHlo.TRef sig ⟨S300000, .i1⟩) (.of main_v477 : StableHlo.TRef sig ⟨S300000, .i32⟩) (.of main_call68_v1 : StableHlo.TRef sig ⟨S300000, .i32⟩) (.of main_v585 : StableHlo.TRef sig ⟨S300000, .i32⟩) select,
    StableHlo.nullary main_c_229 (constantI S_ 32 0#32),
    StableHlo.unary main_c_229 main_v586 (broadcastInDim S300000 ![] bcast_S_S300000 : (⟨S_, .i32⟩ : BufTy).Contents (Elt F) → (⟨S300000, .i32⟩ : BufTy).Contents (Elt F)),
    StableHlo.binary main_v581 main_v586 main_v587 (cmpi .slt : (⟨S300000, .i32⟩ : BufTy).Contents (Elt F) → (⟨S300000, .i32⟩ : BufTy).Contents (Elt F) → (⟨S300000, .i1⟩ : BufTy).Contents (Elt F)),
    StableHlo.nullary main_c_230 (constantI S_ 32 30001#32),
    StableHlo.unary main_c_230 main_v588 (broadcastInDim S300000 ![] bcast_S_S300000 : (⟨S_, .i32⟩ : BufTy).Contents (Elt F) → (⟨S300000, .i32⟩ : BufTy).Contents (Elt F)),
    StableHlo.binary main_v581 main_v588 main_v589 (addi : (⟨S300000, .i32⟩ : BufTy).Contents (Elt F) → (⟨S300000, .i32⟩ : BufTy).Contents (Elt F) → (⟨S300000, .i32⟩ : BufTy).Contents (Elt F)),
    StableHlo.ternary main_v587 main_v589 main_v581 main_v590 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v590 main_v591 (broadcastInDim S300000x1 ![0] bcast_S300000_S300000x1_0 : (⟨S300000, .i32⟩ : BufTy).Contents (Elt F) → (⟨S300000x1, .i32⟩ : BufTy).Contents (Elt F)),
    StableHlo.ternary main_v577 main_v591 main_v585 main_v592 ((fun x i u => Host.scatter scatter_S30001_S300000x1_S300000_n_0_0_1 (fun _ b => b) x i u) : (⟨S30001, .i32⟩ : BufTy).Contents (Elt F) → (⟨S300000x1, .i32⟩ : BufTy).Contents (Elt F) → (⟨S300000, .i32⟩ : BufTy).Contents (Elt F) → (⟨S30001, .i32⟩ : BufTy).Contents (Elt F)),
    StableHlo.unary main_v592 main_v593 ((extractStridedSlice S30000 ![0] · slices_S30001_S30000_0) : (⟨S30001, .i32⟩ : BufTy).Contents (Elt F) → (⟨S30000, .i32⟩ : BufTy).Contents (Elt F)),
    StableHlo.nullary main_c_231 (constantI S_ 32 0#32),
    StableHlo.unary main_c_231 main_v594 (broadcastInDim S30000 ![] bcast_S_S30000 : (⟨S_, .i32⟩ : BufTy).Contents (Elt F) → (⟨S30000, .i32⟩ : BufTy).Contents (Elt F)),
    StableHlo.binary main_v593 main_v594 main_v595 (cmpi .sge : (⟨S30000, .i32⟩ : BufTy).Contents (Elt F) → (⟨S30000, .i32⟩ : BufTy).Contents (Elt F) → (⟨S30000, .i1⟩ : BufTy).Contents (Elt F)),
    StableHlo.nullary main_c_232 (constantI S_ 32 262144#32),
    StableHlo.TRef.unary (.of main_c_232 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S30000, .i32⟩) (broadcastInDim S30000 ![] bcast_S_S30000),
    StableHlo.TRef.binary (.of main_v593 : StableHlo.TRef sig ⟨S30000, .i32⟩) (.of main_call69_v1 : StableHlo.TRef sig ⟨S30000, .i32⟩) (.of main_call69_v2 : StableHlo.TRef sig ⟨S30000, .i32⟩) Host.divsi,
    StableHlo.TRef.unary (.of main_v593 : StableHlo.TRef sig ⟨S30000, .i32⟩) (.of main_call69_v3 : StableHlo.TRef sig ⟨S30000, .i32⟩) signi,
    StableHlo.TRef.unary (.of main_call69_v0 : StableHlo.TRef sig ⟨S_, .i32⟩) (.of main_call69_v4 : StableHlo.TRef sig ⟨S_, .i32⟩) signi,
    StableHlo.TRef.unary (.of main_call69_v4 : StableHlo.TRef sig ⟨S_, .i32⟩) (.of main_call69_v5 : StableHlo.TRef sig ⟨S30000, .i32⟩) (broadcastInDim S30000 ![] bcast_S_S30000),
    StableHlo.TRef.binary (.of main_call69_v3 : StableHlo.TRef sig ⟨S30000, .i32⟩) (.of main_call69_v5 : StableHlo.TRef sig ⟨S30000, .i32⟩) (.of main_call69_v6 : StableHlo.TRef sig ⟨S30000, .i1⟩) (cmpi .ne),
    StableHlo.TRef.unary (.of main_call69_v0 : StableHlo.TRef sig ⟨S_, .i32⟩) (.of main_call69_v7 : StableHlo.TRef sig ⟨S30000, .i32⟩) (broadcastInDim S30000 ![] bcast_S_S30000),
    StableHlo.TRef.binary (.of main_v593 : StableHlo.TRef sig ⟨S30000, .i32⟩) (.of main_call69_v7 : StableHlo.TRef sig ⟨S30000, .i32⟩) (.of main_call69_v8 : StableHlo.TRef sig ⟨S30000, .i32⟩) Host.remsi,
    StableHlo.TRef.nullary (.of main_call69_c : StableHlo.TRef sig ⟨S_, .i32⟩) (constantI S_ 32 0#32),
    StableHlo.TRef.unary (.of main_call69_c : StableHlo.TRef sig ⟨S_, .i32⟩) (.of main_call69_v9 : StableHlo.TRef sig ⟨S30000, .i32⟩) (broadcastInDim S30000 ![] bcast_S_S30000),
    StableHlo.TRef.binary (.of main_call69_v8 : StableHlo.TRef sig ⟨S30000, .i32⟩) (.of main_call69_v9 : StableHlo.TRef sig ⟨S30000, .i32⟩) (.of main_call69_v10 : StableHlo.TRef sig ⟨S30000, .i1⟩) (cmpi .ne),
    StableHlo.TRef.binary (.of main_call69_v6 : StableHlo.TRef sig ⟨S30000, .i1⟩) (.of main_call69_v10 : StableHlo.TRef sig ⟨S30000, .i1⟩) (.of main_call69_v11 : StableHlo.TRef sig ⟨S30000, .i1⟩) andi,
    StableHlo.TRef.nullary (.of main_call69_c_0 : StableHlo.TRef sig ⟨S_, .i32⟩) (constantI S_ 32 1#32),
    StableHlo.TRef.unary (.of main_call69_c_0 : StableHlo.TRef sig ⟨S_, .i32⟩) (.of main_call69_v12 : StableHlo.TRef sig ⟨S30000, .i32⟩) (broadcastInDim S30000 ![] bcast_S_S30000),
    StableHlo.TRef.binary (.of main_call69_v2 : StableHlo.TRef sig ⟨S30000, .i32⟩) (.of main_call69_v12 : StableHlo.TRef sig ⟨S30000, .i32⟩) (.of main_call69_v13 : StableHlo.TRef sig ⟨S30000, .i32⟩) subi,
    StableHlo.TRef.ternary (.of main_call69_v11 : StableHlo.TRef sig ⟨S30000, .i1⟩) (.of main_call69_v13 : StableHlo.TRef sig ⟨S30000, .i32⟩) (.of main_call69_v2 : StableHlo.TRef sig ⟨S30000, .i32⟩) (.of main_v596 : StableHlo.TRef sig ⟨S30000, .i32⟩) select,
    StableHlo.nullary main_c_233 (constantI S_ 32 4294967295#32),
    StableHlo.TRef.unary (.of main_c_233 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S30000, .i32⟩) (broadcastInDim S30000 ![] bcast_S_S30000),
    StableHlo.TRef.ternary (.of main_v595 : StableHlo.TRef sig ⟨S30000, .i1⟩) (.of main_v596 : StableHlo.TRef sig ⟨S30000, .i32⟩) (.of main_call70_v1 : StableHlo.TRef sig ⟨S30000, .i32⟩) (.of main_v597 : StableHlo.TRef sig ⟨S30000, .i32⟩) select,
    StableHlo.nullary main_c_234 (constantI S_ 32 0#32),
    StableHlo.unary main_c_234 main_v598 (broadcastInDim S30000 ![] bcast_S_S30000 : (⟨S_, .i32⟩ : BufTy).Contents (Elt F) → (⟨S30000, .i32⟩ : BufTy).Contents (Elt F)),
    StableHlo.binary main_v593 main_v598 main_v599 (cmpi .sge : (⟨S30000, .i32⟩ : BufTy).Contents (Elt F) → (⟨S30000, .i32⟩ : BufTy).Contents (Elt F) → (⟨S30000, .i1⟩ : BufTy).Contents (Elt F)),
    StableHlo.nullary main_c_235 (constantI S_ 32 512#32),
    StableHlo.TRef.unary (.of main_c_235 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S30000, .i32⟩) (broadcastInDim S30000 ![] bcast_S_S30000),
    StableHlo.TRef.binary (.of main_v593 : StableHlo.TRef sig ⟨S30000, .i32⟩) (.of main_call71_v1 : StableHlo.TRef sig ⟨S30000, .i32⟩) (.of main_call71_v2 : StableHlo.TRef sig ⟨S30000, .i32⟩) Host.divsi,
    StableHlo.TRef.unary (.of main_v593 : StableHlo.TRef sig ⟨S30000, .i32⟩) (.of main_call71_v3 : StableHlo.TRef sig ⟨S30000, .i32⟩) signi,
    StableHlo.TRef.unary (.of main_call71_v0 : StableHlo.TRef sig ⟨S_, .i32⟩) (.of main_call71_v4 : StableHlo.TRef sig ⟨S_, .i32⟩) signi,
    StableHlo.TRef.unary (.of main_call71_v4 : StableHlo.TRef sig ⟨S_, .i32⟩) (.of main_call71_v5 : StableHlo.TRef sig ⟨S30000, .i32⟩) (broadcastInDim S30000 ![] bcast_S_S30000),
    StableHlo.TRef.binary (.of main_call71_v3 : StableHlo.TRef sig ⟨S30000, .i32⟩) (.of main_call71_v5 : StableHlo.TRef sig ⟨S30000, .i32⟩) (.of main_call71_v6 : StableHlo.TRef sig ⟨S30000, .i1⟩) (cmpi .ne),
    StableHlo.TRef.unary (.of main_call71_v0 : StableHlo.TRef sig ⟨S_, .i32⟩) (.of main_call71_v7 : StableHlo.TRef sig ⟨S30000, .i32⟩) (broadcastInDim S30000 ![] bcast_S_S30000),
    StableHlo.TRef.binary (.of main_v593 : StableHlo.TRef sig ⟨S30000, .i32⟩) (.of main_call71_v7 : StableHlo.TRef sig ⟨S30000, .i32⟩) (.of main_call71_v8 : StableHlo.TRef sig ⟨S30000, .i32⟩) Host.remsi,
    StableHlo.TRef.nullary (.of main_call71_c : StableHlo.TRef sig ⟨S_, .i32⟩) (constantI S_ 32 0#32),
    StableHlo.TRef.unary (.of main_call71_c : StableHlo.TRef sig ⟨S_, .i32⟩) (.of main_call71_v9 : StableHlo.TRef sig ⟨S30000, .i32⟩) (broadcastInDim S30000 ![] bcast_S_S30000),
    StableHlo.TRef.binary (.of main_call71_v8 : StableHlo.TRef sig ⟨S30000, .i32⟩) (.of main_call71_v9 : StableHlo.TRef sig ⟨S30000, .i32⟩) (.of main_call71_v10 : StableHlo.TRef sig ⟨S30000, .i1⟩) (cmpi .ne),
    StableHlo.TRef.binary (.of main_call71_v6 : StableHlo.TRef sig ⟨S30000, .i1⟩) (.of main_call71_v10 : StableHlo.TRef sig ⟨S30000, .i1⟩) (.of main_call71_v11 : StableHlo.TRef sig ⟨S30000, .i1⟩) andi,
    StableHlo.TRef.nullary (.of main_call71_c_0 : StableHlo.TRef sig ⟨S_, .i32⟩) (constantI S_ 32 1#32),
    StableHlo.TRef.unary (.of main_call71_c_0 : StableHlo.TRef sig ⟨S_, .i32⟩) (.of main_call71_v12 : StableHlo.TRef sig ⟨S30000, .i32⟩) (broadcastInDim S30000 ![] bcast_S_S30000),
    StableHlo.TRef.binary (.of main_call71_v2 : StableHlo.TRef sig ⟨S30000, .i32⟩) (.of main_call71_v12 : StableHlo.TRef sig ⟨S30000, .i32⟩) (.of main_call71_v13 : StableHlo.TRef sig ⟨S30000, .i32⟩) subi,
    StableHlo.TRef.ternary (.of main_call71_v11 : StableHlo.TRef sig ⟨S30000, .i1⟩) (.of main_call71_v13 : StableHlo.TRef sig ⟨S30000, .i32⟩) (.of main_call71_v2 : StableHlo.TRef sig ⟨S30000, .i32⟩) (.of main_v600 : StableHlo.TRef sig ⟨S30000, .i32⟩) select,
    StableHlo.nullary main_c_236 (constantI S_ 32 512#32),
    StableHlo.TRef.unary (.of main_c_236 : StableHlo.TRef sig ⟨S_, .i32⟩) (.of main_call72_v0 : StableHlo.TRef sig ⟨S_, .i32⟩) id,
    StableHlo.TRef.nullary (.of main_call72_c : StableHlo.TRef sig ⟨S_, .i32⟩) (constantI S_ 32 0#32),
    StableHlo.TRef.binary (.of main_call72_v0 : StableHlo.TRef sig ⟨S_, .i32⟩) (.of main_call72_c : StableHlo.TRef sig ⟨S_, .i32⟩) (.of main_call72_v1 : StableHlo.TRef sig ⟨S_, .i1⟩) (cmpi .eq),
    StableHlo.TRef.nullary (.of main_call72_c_0 : StableHlo.TRef sig ⟨S_, .i32⟩) (constantI S_ 32 1#32),
    StableHlo.TRef.ternary (.of main_call72_v1 : StableHlo.TRef sig ⟨S_, .i1⟩) (.of main_call72_c_0 : StableHlo.TRef sig ⟨S_, .i32⟩) (.of main_call72_v0 : StableHlo.TRef sig ⟨S_, .i32⟩) (.of main_call72_v2 : StableHlo.TRef sig ⟨S_, .i32⟩) select,
    StableHlo.TRef.unary main_call72_call0.v0 (.of main_call72_v3 : StableHlo.TRef sig ⟨S30000, .i32⟩) (broadcastInDim S30000 ![] bcast_S_S30000),
    StableHlo.TRef.binary (.of main_v600 : StableHlo.TRef sig ⟨S30000, .i32⟩) (.of main_call72_v3 : StableHlo.TRef sig ⟨S30000, .i32⟩) (.of main_call72_v4 : StableHlo.TRef sig ⟨S30000, .i32⟩) Host.remsi,
    StableHlo.TRef.nullary (.of main_call72_c_1 : StableHlo.TRef sig ⟨S_, .i32⟩) (constantI S_ 32 0#32),
    StableHlo.TRef.unary (.of main_call72_c_1 : StableHlo.TRef sig ⟨S_, .i32⟩) (.of main_call72_v5 : StableHlo.TRef sig ⟨S30000, .i32⟩) (broadcastInDim S30000 ![] bcast_S_S30000),
    StableHlo.TRef.binary (.of main_call72_v4 : StableHlo.TRef sig ⟨S30000, .i32⟩) (.of main_call72_v5 : StableHlo.TRef sig ⟨S30000, .i32⟩) (.of main_call72_v6 : StableHlo.TRef sig ⟨S30000, .i1⟩) (cmpi .ne),
    StableHlo.TRef.nullary (.of main_call72_c_2 : StableHlo.TRef sig ⟨S_, .i32⟩) (constantI S_ 32 0#32),
    StableHlo.TRef.unary (.of main_call72_c_2 : StableHlo.TRef sig ⟨S_, .i32⟩) (.of main_call72_v7 : StableHlo.TRef sig ⟨S30000, .i32⟩) (broadcastInDim S30000 ![] bcast_S_S30000),
    StableHlo.TRef.binary (.of main_call72_v4 : StableHlo.TRef sig ⟨S30000, .i32⟩) (.of main_call72_v7 : StableHlo.TRef sig ⟨S30000, .i32⟩) (.of main_call72_v8 : StableHlo.TRef sig ⟨S30000, .i1⟩) (cmpi .slt),
    StableHlo.TRef.nullary (.of main_call72_c_3 : StableHlo.TRef sig ⟨S_, .i32⟩) (constantI S_ 32 0#32),
    StableHlo.TRef.binary main_call72_call0.v0 (.of main_call72_c_3 : StableHlo.TRef sig ⟨S_, .i32⟩) (.of main_call72_v9 : StableHlo.TRef sig ⟨S_, .i1⟩) (cmpi .slt),
    StableHlo.TRef.unary (.of main_call72_v9 : StableHlo.TRef sig ⟨S_, .i1⟩) (.of main_call72_v10 : StableHlo.TRef sig ⟨S30000, .i1⟩) (broadcastInDim S30000 ![] bcast_S_S30000),
    StableHlo.TRef.binary (.of main_call72_v8 : StableHlo.TRef sig ⟨S30000, .i1⟩) (.of main_call72_v10 : StableHlo.TRef sig ⟨S30000, .i1⟩) (.of main_call72_v11 : StableHlo.TRef sig ⟨S30000, .i1⟩) (cmpi .ne),
    StableHlo.TRef.binary (.of main_call72_v11 : StableHlo.TRef sig ⟨S30000, .i1⟩) (.of main_call72_v6 : StableHlo.TRef sig ⟨S30000, .i1⟩) (.of main_call72_v12 : StableHlo.TRef sig ⟨S30000, .i1⟩) andi,
    StableHlo.TRef.unary main_call72_call0.v0 (.of main_call72_v13 : StableHlo.TRef sig ⟨S30000, .i32⟩) (broadcastInDim S30000 ![] bcast_S_S30000),
    StableHlo.TRef.binary (.of main_call72_v4 : StableHlo.TRef sig ⟨S30000, .i32⟩) (.of main_call72_v13 : StableHlo.TRef sig ⟨S30000, .i32⟩) (.of main_call72_v14 : StableHlo.TRef sig ⟨S30000, .i32⟩) addi,
    StableHlo.TRef.ternary (.of main_call72_v12 : StableHlo.TRef sig ⟨S30000, .i1⟩) (.of main_call72_v14 : StableHlo.TRef sig ⟨S30000, .i32⟩) (.of main_call72_v4 : StableHlo.TRef sig ⟨S30000, .i32⟩) (.of main_v601 : StableHlo.TRef sig ⟨S30000, .i32⟩) select,
    StableHlo.nullary main_c_237 (constantI S_ 32 4294967295#32),
    StableHlo.TRef.unary (.of main_c_237 : StableHlo.TRef sig ⟨S_, .i32⟩) (.of main_call73_v0 : StableHlo.TRef sig ⟨S_, .i32⟩) id,
    StableHlo.TRef.unary (.of main_call73_v0 : StableHlo.TRef sig ⟨S_, .i32⟩) (.of main_call73_v1 : StableHlo.TRef sig ⟨S30000, .i32⟩) (broadcastInDim S30000 ![] bcast_S_S30000),
    StableHlo.TRef.ternary (.of main_v599 : StableHlo.TRef sig ⟨S30000, .i1⟩) (.of main_v601 : StableHlo.TRef sig ⟨S30000, .i32⟩) (.of main_call73_v1 : StableHlo.TRef sig ⟨S30000, .i32⟩) (.of main_v602 : StableHlo.TRef sig ⟨S30000, .i32⟩) select,
    StableHlo.nullary main_c_238 (constantI S_ 32 0#32),
    StableHlo.unary main_c_238 main_v603 (broadcastInDim S30000 ![] bcast_S_S30000 : (⟨S_, .i32⟩ : BufTy).Contents (Elt F) → (⟨S30000, .i32⟩ : BufTy).Contents (Elt F)),
    StableHlo.binary main_v593 main_v603 main_v604 (cmpi .sge : (⟨S30000, .i32⟩ : BufTy).Contents (Elt F) → (⟨S30000, .i32⟩ : BufTy).Contents (Elt F) → (⟨S30000, .i1⟩ : BufTy).Contents (Elt F)),
    StableHlo.nullary main_c_239 (constantI S_ 32 512#32),
    StableHlo.TRef.unary (.of main_c_239 : StableHlo.TRef sig ⟨S_, .i32⟩) (.of main_call74_v0 : StableHlo.TRef sig ⟨S_, .i32⟩) id,
    StableHlo.TRef.nullary (.of main_call74_c : StableHlo.TRef sig ⟨S_, .i32⟩) (constantI S_ 32 0#32),
    StableHlo.TRef.binary (.of main_call74_v0 : StableHlo.TRef sig ⟨S_, .i32⟩) (.of main_call74_c : StableHlo.TRef sig ⟨S_, .i32⟩) (.of main_call74_v1 : StableHlo.TRef sig ⟨S_, .i1⟩) (cmpi .eq),
    StableHlo.TRef.nullary (.of main_call74_c_0 : StableHlo.TRef sig ⟨S_, .i32⟩) (constantI S_ 32 1#32),
    StableHlo.TRef.ternary (.of main_call74_v1 : StableHlo.TRef sig ⟨S_, .i1⟩) (.of main_call74_c_0 : StableHlo.TRef sig ⟨S_, .i32⟩) (.of main_call74_v0 : StableHlo.TRef sig ⟨S_, .i32⟩) (.of main_call74_v2 : StableHlo.TRef sig ⟨S_, .i32⟩) select,
    StableHlo.TRef.unary main_call74_call0.v0 (.of main_call74_v3 : StableHlo.TRef sig ⟨S30000, .i32⟩) (broadcastInDim S30000 ![] bcast_S_S30000),
    StableHlo.TRef.binary (.of main_v593 : StableHlo.TRef sig ⟨S30000, .i32⟩) (.of main_call74_v3 : StableHlo.TRef sig ⟨S30000, .i32⟩) (.of main_call74_v4 : StableHlo.TRef sig ⟨S30000, .i32⟩) Host.remsi,
    StableHlo.TRef.nullary (.of main_call74_c_1 : StableHlo.TRef sig ⟨S_, .i32⟩) (constantI S_ 32 0#32),
    StableHlo.TRef.unary (.of main_call74_c_1 : StableHlo.TRef sig ⟨S_, .i32⟩) (.of main_call74_v5 : StableHlo.TRef sig ⟨S30000, .i32⟩) (broadcastInDim S30000 ![] bcast_S_S30000),
    StableHlo.TRef.binary (.of main_call74_v4 : StableHlo.TRef sig ⟨S30000, .i32⟩) (.of main_call74_v5 : StableHlo.TRef sig ⟨S30000, .i32⟩) (.of main_call74_v6 : StableHlo.TRef sig ⟨S30000, .i1⟩) (cmpi .ne),
    StableHlo.TRef.nullary (.of main_call74_c_2 : StableHlo.TRef sig ⟨S_, .i32⟩) (constantI S_ 32 0#32),
    StableHlo.TRef.unary (.of main_call74_c_2 : StableHlo.TRef sig ⟨S_, .i32⟩) (.of main_call74_v7 : StableHlo.TRef sig ⟨S30000, .i32⟩) (broadcastInDim S30000 ![] bcast_S_S30000),
    StableHlo.TRef.binary (.of main_call74_v4 : StableHlo.TRef sig ⟨S30000, .i32⟩) (.of main_call74_v7 : StableHlo.TRef sig ⟨S30000, .i32⟩) (.of main_call74_v8 : StableHlo.TRef sig ⟨S30000, .i1⟩) (cmpi .slt),
    StableHlo.TRef.nullary (.of main_call74_c_3 : StableHlo.TRef sig ⟨S_, .i32⟩) (constantI S_ 32 0#32),
    StableHlo.TRef.binary main_call74_call0.v0 (.of main_call74_c_3 : StableHlo.TRef sig ⟨S_, .i32⟩) (.of main_call74_v9 : StableHlo.TRef sig ⟨S_, .i1⟩) (cmpi .slt),
    StableHlo.TRef.unary (.of main_call74_v9 : StableHlo.TRef sig ⟨S_, .i1⟩) (.of main_call74_v10 : StableHlo.TRef sig ⟨S30000, .i1⟩) (broadcastInDim S30000 ![] bcast_S_S30000),
    StableHlo.TRef.binary (.of main_call74_v8 : StableHlo.TRef sig ⟨S30000, .i1⟩) (.of main_call74_v10 : StableHlo.TRef sig ⟨S30000, .i1⟩) (.of main_call74_v11 : StableHlo.TRef sig ⟨S30000, .i1⟩) (cmpi .ne),
    StableHlo.TRef.binary (.of main_call74_v11 : StableHlo.TRef sig ⟨S30000, .i1⟩) (.of main_call74_v6 : StableHlo.TRef sig ⟨S30000, .i1⟩) (.of main_call74_v12 : StableHlo.TRef sig ⟨S30000, .i1⟩) andi,
    StableHlo.TRef.unary main_call74_call0.v0 (.of main_call74_v13 : StableHlo.TRef sig ⟨S30000, .i32⟩) (broadcastInDim S30000 ![] bcast_S_S30000),
    StableHlo.TRef.binary (.of main_call74_v4 : StableHlo.TRef sig ⟨S30000, .i32⟩) (.of main_call74_v13 : StableHlo.TRef sig ⟨S30000, .i32⟩) (.of main_call74_v14 : StableHlo.TRef sig ⟨S30000, .i32⟩) addi,
    StableHlo.TRef.ternary (.of main_call74_v12 : StableHlo.TRef sig ⟨S30000, .i1⟩) (.of main_call74_v14 : StableHlo.TRef sig ⟨S30000, .i32⟩) (.of main_call74_v4 : StableHlo.TRef sig ⟨S30000, .i32⟩) (.of main_v605 : StableHlo.TRef sig ⟨S30000, .i32⟩) select,
    StableHlo.nullary main_c_240 (constantI S_ 32 4294967295#32),
    StableHlo.TRef.unary (.of main_c_240 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S30000, .i32⟩) (broadcastInDim S30000 ![] bcast_S_S30000),
    StableHlo.TRef.ternary (.of main_v604 : StableHlo.TRef sig ⟨S30000, .i1⟩) (.of main_v605 : StableHlo.TRef sig ⟨S30000, .i32⟩) (.of main_call75_v1 : StableHlo.TRef sig ⟨S30000, .i32⟩) (.of main_v606 : StableHlo.TRef sig ⟨S30000, .i32⟩) select,
    StableHlo.unary main_v597 main_v607 (broadcastInDim S30000x1 ![0] bcast_S30000_S30000x1_0 : (⟨S30000, .i32⟩ : BufTy).Contents (Elt F) → (⟨S30000x1, .i32⟩ : BufTy).Contents (Elt F)),
    StableHlo.unary main_v602 main_v608 (broadcastInDim S30000x1 ![0] bcast_S30000_S30000x1_0 : (⟨S30000, .i32⟩ : BufTy).Contents (Elt F) → (⟨S30000x1, .i32⟩ : BufTy).Contents (Elt F)),
    StableHlo.unary main_v606 main_v609 (broadcastInDim S30000x1 ![0] bcast_S30000_S30000x1_0 : (⟨S30000, .i32⟩ : BufTy).Contents (Elt F) → (⟨S30000x1, .i32⟩ : BufTy).Contents (Elt F)),
    StableHlo.nary ![main_v607, main_v608, main_v609] main_v610 (fun u => concatenate S30000x3 1 [⟨S30000x1, u 0⟩, ⟨S30000x1, u 1⟩, ⟨S30000x1, u 2⟩] concatenates_S30000x1_S30000x1_S30000x1_S30000x3_d1),
    StableHlo.nullary main_c_241 (constantI S_ 32 3#32),
    StableHlo.unary main_c_241 main_v611 (broadcastInDim S30000x1 ![] bcast_S_S30000x1 : (⟨S_, .i32⟩ : BufTy).Contents (Elt F) → (⟨S30000x1, .i32⟩ : BufTy).Contents (Elt F)),
    StableHlo.binary main_v611 main_v610 main_v612 ((fun a b => concatenate S30000x4 1 [⟨S30000x1, a⟩, ⟨S30000x3, b⟩] concatenates_S30000x1_S30000x3_S30000x4_d1) : (⟨S30000x1, .i32⟩ : BufTy).Contents (Elt F) → (⟨S30000x3, .i32⟩ : BufTy).Contents (Elt F) → (⟨S30000x4, .i32⟩ : BufTy).Contents (Elt F)) ]

set_option maxHeartbeats 40000000 in
/-- The four batches' voxels, counts and coordinates stacked. -/
abbrev kFin : List (HloOp τ sig (Elt F)) :=
  [ StableHlo.nary ![main_v160, main_v297, main_v434, main_v571] main_v613 (fun u => concatenate S120000x20x5 0 [⟨S30000x20x5, u 0⟩, ⟨S30000x20x5, u 1⟩, ⟨S30000x20x5, u 2⟩, ⟨S30000x20x5, u 3⟩] concatenates_S30000x20x5_S30000x20x5_S30000x20x5_S30000x20x5_S120000x20x5_d0),
    StableHlo.nary ![main_v165, main_v302, main_v439, main_v576] main_v614 (fun u => concatenate S120000 0 [⟨S30000, u 0⟩, ⟨S30000, u 1⟩, ⟨S30000, u 2⟩, ⟨S30000, u 3⟩] concatenates_S30000_S30000_S30000_S30000_S120000_d0),
    StableHlo.nary ![main_v201, main_v338, main_v475, main_v612] main_v615 (fun u => concatenate S120000x4 0 [⟨S30000x4, u 0⟩, ⟨S30000x4, u 1⟩, ⟨S30000x4, u 2⟩, ⟨S30000x4, u 3⟩] concatenates_S30000x4_S30000x4_S30000x4_S30000x4_S120000x4_d0) ]

set_option maxHeartbeats 40000000 in
/-- The segments after the region, concatenated, are the regrouped lists in order. -/
theorem flatten_eq : List.flatten ([hostOps1 (F := F), hostOps1_1 (F := F), hostOps1_2 (F := F), hostOps1_3 (F := F), hostOps1_4 (F := F), hostOps1_5 (F := F), hostOps1_6 (F := F), hostOps1_7 (F := F), hostOps1_8 (F := F), hostOps1_9 (F := F), hostOps1_10 (F := F), hostOps1_11 (F := F), hostOps1_12 (F := F), hostOps1_13 (F := F), hostOps1_14 (F := F), hostOps1_15 (F := F), hostOps1_16 (F := F), hostOps1_17 (F := F), hostOps1_18 (F := F), hostOps1_19 (F := F), hostOps1_20 (F := F), hostOps1_21 (F := F), hostOps1_22 (F := F), hostOps1_23 (F := F), hostOps1_24 (F := F), hostOps1_25 (F := F), hostOps1_26 (F := F), hostOps1_27 (F := F), hostOps1_28 (F := F), hostOps1_29 (F := F), hostOps1_30 (F := F), hostOps1_31 (F := F), hostOps1_32 (F := F), hostOps1_33 (F := F), hostOps1_34 (F := F), hostOps1_35 (F := F), hostOps1_36 (F := F), hostOps1_37 (F := F), hostOps1_38 (F := F), hostOps1_39 (F := F), hostOps1_40 (F := F), hostOps1_41 (F := F), hostOps1_42 (F := F), hostOps1_43 (F := F), hostOps1_44 (F := F), hostOps1_45 (F := F), hostOps1_46 (F := F), hostOps1_47 (F := F), hostOps1_48 (F := F), hostOps1_49 (F := F), hostOps1_50 (F := F), hostOps1_51 (F := F), hostOps1_52 (F := F), hostOps1_53 (F := F), hostOps1_54 (F := F), hostOps1_55 (F := F), hostOps1_56 (F := F), hostOps1_57 (F := F), hostOps1_58 (F := F), hostOps1_59 (F := F), hostOps1_60 (F := F), hostOps1_61 (F := F), hostOps1_62 (F := F), hostOps1_63 (F := F), hostOps1_64 (F := F), hostOps1_65 (F := F), hostOps1_66 (F := F), hostOps1_67 (F := F), hostOps1_68 (F := F), hostOps1_69 (F := F), hostOps1_70 (F := F), hostOps1_71 (F := F), hostOps1_72 (F := F), hostOps1_73 (F := F), hostOps1_74 (F := F), hostOps1_75 (F := F), hostOps1_76 (F := F), hostOps1_77 (F := F), hostOps1_78 (F := F), hostOps1_79 (F := F), hostOps1_80 (F := F), hostOps1_81 (F := F), hostOps1_82 (F := F), hostOps1_83 (F := F), hostOps1_84 (F := F), hostOps1_85 (F := F), hostOps1_86 (F := F), hostOps1_87 (F := F), hostOps1_88 (F := F), hostOps1_89 (F := F), hostOps1_90 (F := F), hostOps1_91 (F := F), hostOps1_92 (F := F), hostOps1_93 (F := F), hostOps1_94 (F := F), hostOps1_95 (F := F), hostOps1_96 (F := F), hostOps1_97 (F := F), hostOps1_98 (F := F), hostOps1_99 (F := F), hostOps1_100 (F := F), hostOps1_101 (F := F), hostOps1_102 (F := F), hostOps1_103 (F := F), hostOps1_104 (F := F), hostOps1_105 (F := F), hostOps1_106 (F := F), hostOps1_107 (F := F), hostOps1_108 (F := F), hostOps1_109 (F := F), hostOps1_110 (F := F), hostOps1_111 (F := F), hostOps1_112 (F := F), hostOps1_113 (F := F), hostOps1_114 (F := F), hostOps1_115 (F := F), hostOps1_116 (F := F), hostOps1_117 (F := F), hostOps1_118 (F := F), hostOps1_119 (F := F), hostOps1_120 (F := F), hostOps1_121 (F := F), hostOps1_122 (F := F), hostOps1_123 (F := F), hostOps1_124 (F := F), hostOps1_125 (F := F), hostOps1_126 (F := F), hostOps1_127 (F := F), hostOps1_128 (F := F), hostOps1_129 (F := F), hostOps1_130 (F := F), hostOps1_131 (F := F), hostOps1_132 (F := F), hostOps1_133 (F := F), hostOps1_134 (F := F), hostOps1_135 (F := F), hostOps1_136 (F := F), hostOps1_137 (F := F), hostOps1_138 (F := F), hostOps1_139 (F := F), hostOps1_140 (F := F), hostOps1_141 (F := F), hostOps1_142 (F := F), hostOps1_143 (F := F), hostOps1_144 (F := F)] : List (List (HloOp τ sig (Elt F)))) = kHead ++ ks0 ++ ks1 ++ ks2 ++ ks3 ++ kFin := rfl

end Cert.KernelIdeal.Tail

end
-- ==== Proof.KeepCore.lean ====
import Idealize.ShloMosaic.Lib.StableHlo.Run

namespace Cert.Keep

open Idealize.ShloMosaic

variable {τ : Topo} {sig : RefSig} {Val : EltTy → Type}

/-! ## A buffer no operation of a list writes keeps its contents

Each host operation writes exactly one buffer, its result. A list of operations is paired, operation by operation, with
the list of its result references; a reference outside that list is written by none of them, so the fold of the
operations over a valuation leaves the valuation's value there. -/

/-- `Writes ops W`: the lists have one length, and the `k`-th operation writes exactly the `k`-th reference. -/
def Writes : List (HloOp τ sig Val) → List (Ref sig .tc) → Prop
  | [], [] => True
  | op :: ops, y :: W => op.writes = {Proc.devRef (τ := τ) .tc y} ∧ Writes ops W
  | [], _ :: _ => False
  | _ :: _, [] => False

/-- A reference outside the list of results keeps its contents through the operations. -/
theorem after_of_writes : ∀ (ops : List (HloOp τ sig Val)) (W : List (Ref sig .tc)), Writes ops W →
    ∀ (V : Valuation τ sig Val) (r : Ref sig .tc), r ∉ W →
      StableHlo.after ops V (Proc.devRef .tc r) = V (Proc.devRef .tc r)
  | [], [], _, _, _, _ => rfl
  | op :: ops, y :: W, h, V, r, hr => by
    rw [StableHlo.after_cons, after_of_writes ops W h.2 _ r (fun hm => hr (List.mem_cons_of_mem _ hm)),
      op.result_of_not_mem V (by
        rw [h.1, Finset.mem_singleton]
        exact StableHlo.devRef_ne_of_ne (fun e => hr (e ▸ List.mem_cons_self)))]
  | [], _ :: _, h, _, _, _ => h.elim
  | _ :: _, [], h, _, _, _ => h.elim

end Cert.Keep
-- ==== Proof.KeepK.lean ====
/- TABLE: for every named list of host operations of KTail, the list of its operations' result references, the fact
   that the list writes exactly those (one line per operation), and: a buffer outside them keeps its contents. -/
import proofs.«111982_j16939351015723_2_alg».proof.Proof.KTail
import proofs.«111982_j16939351015723_2_alg».proof.Proof.KeepCore

-- a list of some hundreds of operations, and a tuple of as many facts about it, nest past the default depth
set_option maxRecDepth 16384

noncomputable section

namespace Cert.KernelIdeal.Tail

open Cert.KernelIdeal Cert.KernelIdeal.Gen Idealize.ShloMosaic Idealize.ShloMosaic.TcCoe Idealize.SL.Sem

variable {F : FTy → Type} [FloatOps F]

/-- The result references of `kHead`'s 1 operation(s), in order. -/
abbrev wr_kHead : List (Ref sig .tc) :=
  [main_v64]

set_option maxHeartbeats 40000000 in
/-- Operation by operation, `kHead` writes exactly those. -/
theorem writes_kHead : Cert.Keep.Writes (τ := τ) (kHead (F := F)) wr_kHead :=
  ⟨rfl, trivial⟩

/-- A buffer outside them keeps its contents through `kHead`. -/
theorem keep_kHead (V : Valuation τ sig (Elt F)) (r : Ref sig .tc) (h : r ∉ wr_kHead) :
    StableHlo.after kHead V (Proc.devRef .tc r) = V (Proc.devRef .tc r) :=
  Cert.Keep.after_of_writes _ _ writes_kHead V r h

/-- The result references of `ks0`'s 292 operation(s), in order. -/
abbrev wr_ks0 : List (Ref sig .tc) :=
  [main_v65, main_v66, main_c_34, main_v67, main_v68, main_v69, main_c_35, main_v70, main_c_36, main_v71, main_v72, main_c_37, main_v73, main_v74, main_v75, main_v76, main_v77, main_c_38, main_v78, main_v79, main_c_39, main_v80, main_v81, main_v82, main_v83, main_v84, main_v85, main_v86, main_v87, main_call0_call0_c, main_call0_call0_v0, main_v88, main_c_40, main_v89, main_v90, main_c_41, main_v91, main_c_42, main_call1_v0, main_call1_v1, main_v92, main_c_43, main_v93, main_v94, main_c_44, main_call2_v0, main_call2_v1, main_v95, main_c_45, main_v96, main_v97, main_c_46, main_v98, main_v99, main_v100, main_v101, main_v102, main_c_47, main_v103, main_v104, main_c_48, main_v105, main_v106, main_v107, main_v108, main_v109, main_c_49, main_call3_v0, main_call3_v1, main_v110, main_call4_v0, main_call4_v1_0, main_v111, main_c_50, main_v112, main_v113, main_c_51, main_v114, main_v115, main_v116, main_v117, main_v118, main_c_52, main_v119, main_v120, main_v121, main_v122, main_v123, main_c_53, main_call5_v0, main_call5_v1, main_v124, main_call6_c, main_call6_v0, main_v125, main_c_54, main_v126, main_v127, main_c_55, main_v128, main_v129, main_c_56, main_v130, main_v131, main_v132, main_v133, main_v134, main_c_57, main_v135, main_v136, main_v137, main_c_58, main_v138, main_v139, main_v140, main_c_59, main_call7_v0, main_call7_v1, main_v141, main_c_60, main_call8_v0, main_call8_v1, main_v142, main_cst_61, main_v143, main_v144, main_cst_62, main_call9_v0, main_call9_v1, main_call9_v2, main_v145, main_c_63, main_v146, main_v147, main_c_64, main_v148, main_v149, main_v150, main_c_65, main_v151, main_v152, main_c_66, main_v153, main_v154, main_v155, main_v156, main_v157, main_v158, main_v159, main_v160, main_v161, main_c_67, main_v162, main_v163, main_v164, main_v165, main_c_68, main_v166, main_c_69, main_v167, main_v168, main_v169, main_c_70, main_call10_v0, main_call10_v1, main_v170, main_c_71, main_v171, main_v172, main_v173, main_c_72, main_call11_v0, main_call11_v1, main_v174, main_c_73, main_v175, main_v176, main_c_74, main_v177, main_v178, main_v179, main_v180, main_v181, main_v182, main_c_75, main_v183, main_v184, main_c_76, main_call12_v0, main_call12_v1, main_call12_v2, main_call12_v3, main_call12_v4, main_call12_v5, main_call12_v6, main_call12_v7, main_call12_v8, main_call12_c, main_call12_v9, main_call12_v10, main_call12_v11, main_call12_c_0, main_call12_v12, main_call12_v13, main_v185, main_c_77, main_call13_v0, main_call13_v1, main_v186, main_c_78, main_v187, main_v188, main_c_79, main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v189, main_c_80, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v190, main_c_81, main_call16_v0, main_call16_v1, main_v191, main_c_82, main_v192, main_v193, main_c_83, main_call17_v0, main_call17_c, main_call17_v1, main_call17_c_0, main_call17_v2, main_call17_v3, main_call17_v4, main_call17_c_1, main_call17_v5, main_call17_v6, main_call17_c_2, main_call17_v7, main_call17_v8, main_call17_c_3, main_call17_v9, main_call17_v10, main_call17_v11, main_call17_v12, main_call17_v13, main_call17_v14, main_v194, main_c_84, main_call18_v0, main_call18_v1, main_v195, main_v196, main_v197, main_v198, main_v199, main_c_85, main_v200, main_v201]

set_option maxHeartbeats 40000000 in
/-- Operation by operation, `ks0` writes exactly those. -/
theorem writes_ks0 : Cert.Keep.Writes (τ := τ) (ks0 (F := F)) wr_ks0 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `ks0`. -/
theorem keep_ks0 (V : Valuation τ sig (Elt F)) (r : Ref sig .tc) (h : r ∉ wr_ks0) :
    StableHlo.after ks0 V (Proc.devRef .tc r) = V (Proc.devRef .tc r) :=
  Cert.Keep.after_of_writes _ _ writes_ks0 V r h

/-- The result references of `ks1`'s 292 operation(s), in order. -/
abbrev wr_ks1 : List (Ref sig .tc) :=
  [main_v202, main_v203, main_c_86, main_v204, main_v205, main_v206, main_c_87, main_v207, main_c_88, main_v208, main_v209, main_c_89, main_v210, main_v211, main_v212, main_v213, main_v214, main_c_90, main_v215, main_v216, main_c_91, main_v217, main_v218, main_v219, main_v220, main_v221, main_v222, main_v223, main_v224, main_call19_call0_c, main_call19_call0_v0, main_v225, main_c_92, main_v226, main_v227, main_c_93, main_v228, main_c_94, main_call20_v0, main_call20_v1, main_v229, main_c_95, main_v230, main_v231, main_c_96, main_call21_v0, main_call21_v1, main_v232, main_c_97, main_v233, main_v234, main_c_98, main_v235, main_v236, main_v237, main_v238, main_v239, main_c_99, main_v240, main_v241, main_c_100, main_v242, main_v243, main_v244, main_v245, main_v246, main_c_101, main_call22_v0, main_call22_v1, main_v247, main_call23_v0, main_call23_v1_0, main_v248, main_c_102, main_v249, main_v250, main_c_103, main_v251, main_v252, main_v253, main_v254, main_v255, main_c_104, main_v256, main_v257, main_v258, main_v259, main_v260, main_c_105, main_call24_v0, main_call24_v1, main_v261, main_call25_c, main_call25_v0, main_v262, main_c_106, main_v263, main_v264, main_c_107, main_v265, main_v266, main_c_108, main_v267, main_v268, main_v269, main_v270, main_v271, main_c_109, main_v272, main_v273, main_v274, main_c_110, main_v275, main_v276, main_v277, main_c_111, main_call26_v0, main_call26_v1, main_v278, main_c_112, main_call27_v0, main_call27_v1, main_v279, main_cst_113, main_v280, main_v281, main_cst_114, main_call28_v0, main_call28_v1, main_call28_v2, main_v282, main_c_115, main_v283, main_v284, main_c_116, main_v285, main_v286, main_v287, main_c_117, main_v288, main_v289, main_c_118, main_v290, main_v291, main_v292, main_v293, main_v294, main_v295, main_v296, main_v297, main_v298, main_c_119, main_v299, main_v300, main_v301, main_v302, main_c_120, main_v303, main_c_121, main_v304, main_v305, main_v306, main_c_122, main_call29_v0, main_call29_v1, main_v307, main_c_123, main_v308, main_v309, main_v310, main_c_124, main_call30_v0, main_call30_v1, main_v311, main_c_125, main_v312, main_v313, main_c_126, main_v314, main_v315, main_v316, main_v317, main_v318, main_v319, main_c_127, main_v320, main_v321, main_c_128, main_call31_v0, main_call31_v1, main_call31_v2, main_call31_v3, main_call31_v4, main_call31_v5, main_call31_v6, main_call31_v7, main_call31_v8, main_call31_c, main_call31_v9, main_call31_v10, main_call31_v11, main_call31_c_0, main_call31_v12, main_call31_v13, main_v322, main_c_129, main_call32_v0, main_call32_v1, main_v323, main_c_130, main_v324, main_v325, main_c_131, main_call33_v0, main_call33_v1, main_call33_v2, main_call33_v3, main_call33_v4, main_call33_v5, main_call33_v6, main_call33_v7, main_call33_v8, main_call33_c, main_call33_v9, main_call33_v10, main_call33_v11, main_call33_c_0, main_call33_v12, main_call33_v13, main_v326, main_c_132, main_call34_v0, main_call34_c, main_call34_v1, main_call34_c_0, main_call34_v2, main_call34_v3, main_call34_v4, main_call34_c_1, main_call34_v5, main_call34_v6, main_call34_c_2, main_call34_v7, main_call34_v8, main_call34_c_3, main_call34_v9, main_call34_v10, main_call34_v11, main_call34_v12, main_call34_v13, main_call34_v14, main_v327, main_c_133, main_call35_v0, main_call35_v1, main_v328, main_c_134, main_v329, main_v330, main_c_135, main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v331, main_c_136, main_call37_v0, main_call37_v1, main_v332, main_v333, main_v334, main_v335, main_v336, main_c_137, main_v337, main_v338]

set_option maxHeartbeats 40000000 in
/-- Operation by operation, `ks1` writes exactly those. -/
theorem writes_ks1 : Cert.Keep.Writes (τ := τ) (ks1 (F := F)) wr_ks1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `ks1`. -/
theorem keep_ks1 (V : Valuation τ sig (Elt F)) (r : Ref sig .tc) (h : r ∉ wr_ks1) :
    StableHlo.after ks1 V (Proc.devRef .tc r) = V (Proc.devRef .tc r) :=
  Cert.Keep.after_of_writes _ _ writes_ks1 V r h

/-- The result references of `ks2`'s 292 operation(s), in order. -/
abbrev wr_ks2 : List (Ref sig .tc) :=
  [main_v339, main_v340, main_c_138, main_v341, main_v342, main_v343, main_c_139, main_v344, main_c_140, main_v345, main_v346, main_c_141, main_v347, main_v348, main_v349, main_v350, main_v351, main_c_142, main_v352, main_v353, main_c_143, main_v354, main_v355, main_v356, main_v357, main_v358, main_v359, main_v360, main_v361, main_call38_call0_c, main_call38_call0_v0, main_v362, main_c_144, main_v363, main_v364, main_c_145, main_v365, main_c_146, main_call39_v0, main_call39_v1, main_v366, main_c_147, main_v367, main_v368, main_c_148, main_call40_v0, main_call40_v1, main_v369, main_c_149, main_v370, main_v371, main_c_150, main_v372, main_v373, main_v374, main_v375, main_v376, main_c_151, main_v377, main_v378, main_c_152, main_v379, main_v380, main_v381, main_v382, main_v383, main_c_153, main_call41_v0, main_call41_v1, main_v384, main_call42_v0, main_call42_v1_0, main_v385, main_c_154, main_v386, main_v387, main_c_155, main_v388, main_v389, main_v390, main_v391, main_v392, main_c_156, main_v393, main_v394, main_v395, main_v396, main_v397, main_c_157, main_call43_v0, main_call43_v1, main_v398, main_call44_c, main_call44_v0, main_v399, main_c_158, main_v400, main_v401, main_c_159, main_v402, main_v403, main_c_160, main_v404, main_v405, main_v406, main_v407, main_v408, main_c_161, main_v409, main_v410, main_v411, main_c_162, main_v412, main_v413, main_v414, main_c_163, main_call45_v0, main_call45_v1, main_v415, main_c_164, main_call46_v0, main_call46_v1, main_v416, main_cst_165, main_v417, main_v418, main_cst_166, main_call47_v0, main_call47_v1, main_call47_v2, main_v419, main_c_167, main_v420, main_v421, main_c_168, main_v422, main_v423, main_v424, main_c_169, main_v425, main_v426, main_c_170, main_v427, main_v428, main_v429, main_v430, main_v431, main_v432, main_v433, main_v434, main_v435, main_c_171, main_v436, main_v437, main_v438, main_v439, main_c_172, main_v440, main_c_173, main_v441, main_v442, main_v443, main_c_174, main_call48_v0, main_call48_v1, main_v444, main_c_175, main_v445, main_v446, main_v447, main_c_176, main_call49_v0, main_call49_v1, main_v448, main_c_177, main_v449, main_v450, main_c_178, main_v451, main_v452, main_v453, main_v454, main_v455, main_v456, main_c_179, main_v457, main_v458, main_c_180, main_call50_v0, main_call50_v1, main_call50_v2, main_call50_v3, main_call50_v4, main_call50_v5, main_call50_v6, main_call50_v7, main_call50_v8, main_call50_c, main_call50_v9, main_call50_v10, main_call50_v11, main_call50_c_0, main_call50_v12, main_call50_v13, main_v459, main_c_181, main_call51_v0, main_call51_v1, main_v460, main_c_182, main_v461, main_v462, main_c_183, main_call52_v0, main_call52_v1, main_call52_v2, main_call52_v3, main_call52_v4, main_call52_v5, main_call52_v6, main_call52_v7, main_call52_v8, main_call52_c, main_call52_v9, main_call52_v10, main_call52_v11, main_call52_c_0, main_call52_v12, main_call52_v13, main_v463, main_c_184, main_call53_v0, main_call53_c, main_call53_v1, main_call53_c_0, main_call53_v2, main_call53_v3, main_call53_v4, main_call53_c_1, main_call53_v5, main_call53_v6, main_call53_c_2, main_call53_v7, main_call53_v8, main_call53_c_3, main_call53_v9, main_call53_v10, main_call53_v11, main_call53_v12, main_call53_v13, main_call53_v14, main_v464, main_c_185, main_call54_v0, main_call54_v1, main_v465, main_c_186, main_v466, main_v467, main_c_187, main_call55_v0, main_call55_c, main_call55_v1, main_call55_c_0, main_call55_v2, main_call55_v3, main_call55_v4, main_call55_c_1, main_call55_v5, main_call55_v6, main_call55_c_2, main_call55_v7, main_call55_v8, main_call55_c_3, main_call55_v9, main_call55_v10, main_call55_v11, main_call55_v12, main_call55_v13, main_call55_v14, main_v468, main_c_188, main_call56_v0, main_call56_v1, main_v469, main_v470, main_v471, main_v472, main_v473, main_c_189, main_v474, main_v475]

set_option maxHeartbeats 40000000 in
/-- Operation by operation, `ks2` writes exactly those. -/
theorem writes_ks2 : Cert.Keep.Writes (τ := τ) (ks2 (F := F)) wr_ks2 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `ks2`. -/
theorem keep_ks2 (V : Valuation τ sig (Elt F)) (r : Ref sig .tc) (h : r ∉ wr_ks2) :
    StableHlo.after ks2 V (Proc.devRef .tc r) = V (Proc.devRef .tc r) :=
  Cert.Keep.after_of_writes _ _ writes_ks2 V r h

/-- The result references of `ks3`'s 292 operation(s), in order. -/
abbrev wr_ks3 : List (Ref sig .tc) :=
  [main_v476, main_v477, main_c_190, main_v478, main_v479, main_v480, main_c_191, main_v481, main_c_192, main_v482, main_v483, main_c_193, main_v484, main_v485, main_v486, main_v487, main_v488, main_c_194, main_v489, main_v490, main_c_195, main_v491, main_v492, main_v493, main_v494, main_v495, main_v496, main_v497, main_v498, main_call57_call0_c, main_call57_call0_v0, main_v499, main_c_196, main_v500, main_v501, main_c_197, main_v502, main_c_198, main_call58_v0, main_call58_v1, main_v503, main_c_199, main_v504, main_v505, main_c_200, main_call59_v0, main_call59_v1, main_v506, main_c_201, main_v507, main_v508, main_c_202, main_v509, main_v510, main_v511, main_v512, main_v513, main_c_203, main_v514, main_v515, main_c_204, main_v516, main_v517, main_v518, main_v519, main_v520, main_c_205, main_call60_v0, main_call60_v1, main_v521, main_call61_v0, main_call61_v1_0, main_v522, main_c_206, main_v523, main_v524, main_c_207, main_v525, main_v526, main_v527, main_v528, main_v529, main_c_208, main_v530, main_v531, main_v532, main_v533, main_v534, main_c_209, main_call62_v0, main_call62_v1, main_v535, main_call63_c, main_call63_v0, main_v536, main_c_210, main_v537, main_v538, main_c_211, main_v539, main_v540, main_c_212, main_v541, main_v542, main_v543, main_v544, main_v545, main_c_213, main_v546, main_v547, main_v548, main_c_214, main_v549, main_v550, main_v551, main_c_215, main_call64_v0, main_call64_v1, main_v552, main_c_216, main_call65_v0, main_call65_v1, main_v553, main_cst_217, main_v554, main_v555, main_cst_218, main_call66_v0, main_call66_v1, main_call66_v2, main_v556, main_c_219, main_v557, main_v558, main_c_220, main_v559, main_v560, main_v561, main_c_221, main_v562, main_v563, main_c_222, main_v564, main_v565, main_v566, main_v567, main_v568, main_v569, main_v570, main_v571, main_v572, main_c_223, main_v573, main_v574, main_v575, main_v576, main_c_224, main_v577, main_c_225, main_v578, main_v579, main_v580, main_c_226, main_call67_v0, main_call67_v1, main_v581, main_c_227, main_v582, main_v583, main_v584, main_c_228, main_call68_v0, main_call68_v1, main_v585, main_c_229, main_v586, main_v587, main_c_230, main_v588, main_v589, main_v590, main_v591, main_v592, main_v593, main_c_231, main_v594, main_v595, main_c_232, main_call69_v0, main_call69_v1, main_call69_v2, main_call69_v3, main_call69_v4, main_call69_v5, main_call69_v6, main_call69_v7, main_call69_v8, main_call69_c, main_call69_v9, main_call69_v10, main_call69_v11, main_call69_c_0, main_call69_v12, main_call69_v13, main_v596, main_c_233, main_call70_v0, main_call70_v1, main_v597, main_c_234, main_v598, main_v599, main_c_235, main_call71_v0, main_call71_v1, main_call71_v2, main_call71_v3, main_call71_v4, main_call71_v5, main_call71_v6, main_call71_v7, main_call71_v8, main_call71_c, main_call71_v9, main_call71_v10, main_call71_v11, main_call71_c_0, main_call71_v12, main_call71_v13, main_v600, main_c_236, main_call72_v0, main_call72_c, main_call72_v1, main_call72_c_0, main_call72_v2, main_call72_v3, main_call72_v4, main_call72_c_1, main_call72_v5, main_call72_v6, main_call72_c_2, main_call72_v7, main_call72_v8, main_call72_c_3, main_call72_v9, main_call72_v10, main_call72_v11, main_call72_v12, main_call72_v13, main_call72_v14, main_v601, main_c_237, main_call73_v0, main_call73_v1, main_v602, main_c_238, main_v603, main_v604, main_c_239, main_call74_v0, main_call74_c, main_call74_v1, main_call74_c_0, main_call74_v2, main_call74_v3, main_call74_v4, main_call74_c_1, main_call74_v5, main_call74_v6, main_call74_c_2, main_call74_v7, main_call74_v8, main_call74_c_3, main_call74_v9, main_call74_v10, main_call74_v11, main_call74_v12, main_call74_v13, main_call74_v14, main_v605, main_c_240, main_call75_v0, main_call75_v1, main_v606, main_v607, main_v608, main_v609, main_v610, main_c_241, main_v611, main_v612]

set_option maxHeartbeats 40000000 in
/-- Operation by operation, `ks3` writes exactly those. -/
theorem writes_ks3 : Cert.Keep.Writes (τ := τ) (ks3 (F := F)) wr_ks3 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `ks3`. -/
theorem keep_ks3 (V : Valuation τ sig (Elt F)) (r : Ref sig .tc) (h : r ∉ wr_ks3) :
    StableHlo.after ks3 V (Proc.devRef .tc r) = V (Proc.devRef .tc r) :=
  Cert.Keep.after_of_writes _ _ writes_ks3 V r h

/-- The result references of `kFin`'s 3 operation(s), in order. -/
abbrev wr_kFin : List (Ref sig .tc) :=
  [main_v613, main_v614, main_v615]

set_option maxHeartbeats 40000000 in
/-- Operation by operation, `kFin` writes exactly those. -/
theorem writes_kFin : Cert.Keep.Writes (τ := τ) (kFin (F := F)) wr_kFin :=
  ⟨rfl, rfl, rfl, trivial⟩

/-- A buffer outside them keeps its contents through `kFin`. -/
theorem keep_kFin (V : Valuation τ sig (Elt F)) (r : Ref sig .tc) (h : r ∉ wr_kFin) :
    StableHlo.after kFin V (Proc.devRef .tc r) = V (Proc.devRef .tc r) :=
  Cert.Keep.after_of_writes _ _ writes_kFin V r h

end Cert.KernelIdeal.Tail

end
-- ==== Proof.KeepR.lean ====
/- TABLE: for every named list of host operations of RefOps, the list of its operations' result references, the fact
   that the list writes exactly those (one line per operation), and: a buffer outside them keeps its contents. -/
import proofs.«111982_j16939351015723_2_alg».proof.Proof.RefOps
import proofs.«111982_j16939351015723_2_alg».proof.Proof.KeepCore

-- a list of some hundreds of operations, and a tuple of as many facts about it, nest past the default depth
set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The result references of `hdOps`'s 3 operation(s), in order. -/
abbrev wr_hdOps : List (Ref sig .tc) :=
  [main_cst, main_cst_0, main_c]

set_option maxHeartbeats 40000000 in
/-- Operation by operation, `hdOps` writes exactly those. -/
theorem writes_hdOps : Cert.Keep.Writes (τ := τ) (hdOps (F := F)) wr_hdOps :=
  ⟨rfl, rfl, rfl, trivial⟩

/-- A buffer outside them keeps its contents through `hdOps`. -/
theorem keep_hdOps (V : Valuation τ sig (Elt F)) (r : Ref sig .tc) (h : r ∉ wr_hdOps) :
    StableHlo.after hdOps V (Proc.devRef .tc r) = V (Proc.devRef .tc r) :=
  Cert.Keep.after_of_writes _ _ writes_hdOps V r h

/-- The result references of `ptsOps0`'s 23 operation(s), in order. -/
abbrev wr_ptsOps0 : List (Ref sig .tc) :=
  [main_v0, main_v1, main_c_1, main_v2, main_c_2, main_v3, main_v4, main_cst_3, main_v5, main_c_4, main_v6, main_c_5, main_v7, main_v8, main_cst_6, main_v9, main_c_7, main_v10, main_c_8, main_v11, main_v12, main_cst_9, main_v13]

set_option maxHeartbeats 40000000 in
/-- Operation by operation, `ptsOps0` writes exactly those. -/
theorem writes_ptsOps0 : Cert.Keep.Writes (τ := τ) (ptsOps0 (F := F)) wr_ptsOps0 :=
  ⟨rfl, rfl, rfl, rfl, rfl, rfl, rfl, rfl, rfl, rfl, rfl, rfl, rfl, rfl, rfl, rfl, rfl, rfl, rfl, rfl, rfl, rfl, rfl, trivial⟩

/-- A buffer outside them keeps its contents through `ptsOps0`. -/
theorem keep_ptsOps0 (V : Valuation τ sig (Elt F)) (r : Ref sig .tc) (h : r ∉ wr_ptsOps0) :
    StableHlo.after ptsOps0 V (Proc.devRef .tc r) = V (Proc.devRef .tc r) :=
  Cert.Keep.after_of_writes _ _ writes_ptsOps0 V r h

/-- The result references of `linOps0`'s 36 operation(s), in order. -/
abbrev wr_linOps0 : List (Ref sig .tc) :=
  [main_v14, main_v15, main_v16, main_v17, main_v18, main_v19, main_v20, main_v21, main_v22, main_c_10, main_v23, main_v24, main_v25, main_v26, main_v27, main_v28, main_c_11, main_v29, main_v30, main_v31, main_c_12, main_v32, main_v33, main_v34, main_v35, main_v36, main_c_13, main_v37, main_v38, main_v39, main_v40, main_v41, main_c_14, main_call0_v0, main_call0_v1, main_v42]

set_option maxHeartbeats 40000000 in
/-- Operation by operation, `linOps0` writes exactly those. -/
theorem writes_linOps0 : Cert.Keep.Writes (τ := τ) (linOps0 (F := F)) wr_linOps0 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `linOps0`. -/
theorem keep_linOps0 (V : Valuation τ sig (Elt F)) (r : Ref sig .tc) (h : r ∉ wr_linOps0) :
    StableHlo.after linOps0 V (Proc.devRef .tc r) = V (Proc.devRef .tc r) :=
  Cert.Keep.after_of_writes _ _ writes_linOps0 V r h

/-- The result references of `tlOps0`'s 287 operation(s), in order. -/
abbrev wr_tlOps0 : List (Ref sig .tc) :=
  [main_v43, main_c_15, main_v44, main_c_16, main_v45, main_v46, main_c_17, main_v47, main_v48, main_v49, main_v50, main_v51, main_c_18, main_v52, main_v53, main_c_19, main_v54, main_v55, main_v56, main_v57, main_v58, main_v59, main_v60, main_v61, main_call1_call0_c, main_call1_call0_v0, main_v62, main_c_20, main_v63, main_v64, main_c_21, main_v65, main_c_22, main_call2_v0, main_call2_v1, main_v66, main_c_23, main_v67, main_v68, main_c_24, main_call3_v0, main_call3_v1, main_v69, main_c_25, main_v70, main_v71, main_c_26, main_v72, main_v73, main_v74, main_v75, main_v76, main_c_27, main_v77, main_v78, main_c_28, main_v79, main_v80, main_v81, main_v82, main_v83, main_c_29, main_call4_v0, main_call4_v1, main_v84, main_call5_v0, main_call5_v1_0, main_v85, main_c_30, main_v86, main_v87, main_c_31, main_v88, main_v89, main_v90, main_v91, main_v92, main_c_32, main_v93, main_v94, main_v95, main_v96, main_v97, main_c_33, main_call6_v0, main_call6_v1, main_v98, main_call7_c, main_call7_v0, main_v99, main_c_34, main_v100, main_v101, main_c_35, main_v102, main_v103, main_c_36, main_v104, main_v105, main_v106, main_v107, main_v108, main_c_37, main_v109, main_v110, main_v111, main_c_38, main_v112, main_v113, main_v114, main_c_39, main_call8_v0, main_call8_v1, main_v115, main_c_40, main_call9_v0, main_call9_v1, main_v116, main_cst_41, main_v117, main_v118, main_cst_42, main_call10_v0, main_call10_v1, main_call10_v2, main_v119, main_c_43, main_v120, main_v121, main_c_44, main_v122, main_v123, main_v124, main_c_45, main_v125, main_v126, main_c_46, main_v127, main_v128, main_v129, main_v130, main_v131, main_v132, main_v133, main_v134, main_v135, main_c_47, main_v136, main_v137, main_v138, main_v139, main_c_48, main_v140, main_c_49, main_v141, main_v142, main_v143, main_c_50, main_call11_v0, main_call11_v1, main_v144, main_c_51, main_v145, main_v146, main_v147, main_c_52, main_call12_v0, main_call12_v1, main_v148, main_c_53, main_v149, main_v150, main_c_54, main_v151, main_v152, main_v153, main_v154, main_v155, main_v156, main_c_55, main_v157, main_v158, main_c_56, main_call13_v0, main_call13_v1, main_call13_v2, main_call13_v3, main_call13_v4, main_call13_v5, main_call13_v6, main_call13_v7, main_call13_v8, main_call13_c, main_call13_v9, main_call13_v10, main_call13_v11, main_call13_c_0, main_call13_v12, main_call13_v13, main_v159, main_c_57, main_call14_v0, main_call14_v1, main_v160, main_c_58, main_v161, main_v162, main_c_59, main_call15_v0, main_call15_v1, main_call15_v2, main_call15_v3, main_call15_v4, main_call15_v5, main_call15_v6, main_call15_v7, main_call15_v8, main_call15_c, main_call15_v9, main_call15_v10, main_call15_v11, main_call15_c_0, main_call15_v12, main_call15_v13, main_v163, main_c_60, main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v164, main_c_61, main_call17_v0, main_call17_v1, main_v165, main_c_62, main_v166, main_v167, main_c_63, main_call18_v0, main_call18_c, main_call18_v1, main_call18_c_0, main_call18_v2, main_call18_v3, main_call18_v4, main_call18_c_1, main_call18_v5, main_call18_v6, main_call18_c_2, main_call18_v7, main_call18_v8, main_call18_c_3, main_call18_v9, main_call18_v10, main_call18_v11, main_call18_v12, main_call18_v13, main_call18_v14, main_v168, main_c_64, main_call19_v0, main_call19_v1, main_v169, main_v170, main_v171, main_v172, main_v173, main_c_65, main_v174, main_v175]

set_option maxHeartbeats 40000000 in
/-- Operation by operation, `tlOps0` writes exactly those. -/
theorem writes_tlOps0 : Cert.Keep.Writes (τ := τ) (tlOps0 (F := F)) wr_tlOps0 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `tlOps0`. -/
theorem keep_tlOps0 (V : Valuation τ sig (Elt F)) (r : Ref sig .tc) (h : r ∉ wr_tlOps0) :
    StableHlo.after tlOps0 V (Proc.devRef .tc r) = V (Proc.devRef .tc r) :=
  Cert.Keep.after_of_writes _ _ writes_tlOps0 V r h

/-- The result references of `ptsOps1`'s 23 operation(s), in order. -/
abbrev wr_ptsOps1 : List (Ref sig .tc) :=
  [main_v176, main_v177, main_c_66, main_v178, main_c_67, main_v179, main_v180, main_cst_68, main_v181, main_c_69, main_v182, main_c_70, main_v183, main_v184, main_cst_71, main_v185, main_c_72, main_v186, main_c_73, main_v187, main_v188, main_cst_74, main_v189]

set_option maxHeartbeats 40000000 in
/-- Operation by operation, `ptsOps1` writes exactly those. -/
theorem writes_ptsOps1 : Cert.Keep.Writes (τ := τ) (ptsOps1 (F := F)) wr_ptsOps1 :=
  ⟨rfl, rfl, rfl, rfl, rfl, rfl, rfl, rfl, rfl, rfl, rfl, rfl, rfl, rfl, rfl, rfl, rfl, rfl, rfl, rfl, rfl, rfl, rfl, trivial⟩

/-- A buffer outside them keeps its contents through `ptsOps1`. -/
theorem keep_ptsOps1 (V : Valuation τ sig (Elt F)) (r : Ref sig .tc) (h : r ∉ wr_ptsOps1) :
    StableHlo.after ptsOps1 V (Proc.devRef .tc r) = V (Proc.devRef .tc r) :=
  Cert.Keep.after_of_writes _ _ writes_ptsOps1 V r h

/-- The result references of `linOps1`'s 36 operation(s), in order. -/
abbrev wr_linOps1 : List (Ref sig .tc) :=
  [main_v190, main_v191, main_v192, main_v193, main_v194, main_v195, main_v196, main_v197, main_v198, main_c_75, main_v199, main_v200, main_v201, main_v202, main_v203, main_v204, main_c_76, main_v205, main_v206, main_v207, main_c_77, main_v208, main_v209, main_v210, main_v211, main_v212, main_c_78, main_v213, main_v214, main_v215, main_v216, main_v217, main_c_79, main_call20_v0, main_call20_v1, main_v218]

set_option maxHeartbeats 40000000 in
/-- Operation by operation, `linOps1` writes exactly those. -/
theorem writes_linOps1 : Cert.Keep.Writes (τ := τ) (linOps1 (F := F)) wr_linOps1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `linOps1`. -/
theorem keep_linOps1 (V : Valuation τ sig (Elt F)) (r : Ref sig .tc) (h : r ∉ wr_linOps1) :
    StableHlo.after linOps1 V (Proc.devRef .tc r) = V (Proc.devRef .tc r) :=
  Cert.Keep.after_of_writes _ _ writes_linOps1 V r h

/-- The result references of `tlOps1`'s 287 operation(s), in order. -/
abbrev wr_tlOps1 : List (Ref sig .tc) :=
  [main_v219, main_c_80, main_v220, main_c_81, main_v221, main_v222, main_c_82, main_v223, main_v224, main_v225, main_v226, main_v227, main_c_83, main_v228, main_v229, main_c_84, main_v230, main_v231, main_v232, main_v233, main_v234, main_v235, main_v236, main_v237, main_call21_call0_c, main_call21_call0_v0, main_v238, main_c_85, main_v239, main_v240, main_c_86, main_v241, main_c_87, main_call22_v0, main_call22_v1, main_v242, main_c_88, main_v243, main_v244, main_c_89, main_call23_v0, main_call23_v1, main_v245, main_c_90, main_v246, main_v247, main_c_91, main_v248, main_v249, main_v250, main_v251, main_v252, main_c_92, main_v253, main_v254, main_c_93, main_v255, main_v256, main_v257, main_v258, main_v259, main_c_94, main_call24_v0, main_call24_v1, main_v260, main_call25_v0, main_call25_v1_0, main_v261, main_c_95, main_v262, main_v263, main_c_96, main_v264, main_v265, main_v266, main_v267, main_v268, main_c_97, main_v269, main_v270, main_v271, main_v272, main_v273, main_c_98, main_call26_v0, main_call26_v1, main_v274, main_call27_c, main_call27_v0, main_v275, main_c_99, main_v276, main_v277, main_c_100, main_v278, main_v279, main_c_101, main_v280, main_v281, main_v282, main_v283, main_v284, main_c_102, main_v285, main_v286, main_v287, main_c_103, main_v288, main_v289, main_v290, main_c_104, main_call28_v0, main_call28_v1, main_v291, main_c_105, main_call29_v0, main_call29_v1, main_v292, main_cst_106, main_v293, main_v294, main_cst_107, main_call30_v0, main_call30_v1, main_call30_v2, main_v295, main_c_108, main_v296, main_v297, main_c_109, main_v298, main_v299, main_v300, main_c_110, main_v301, main_v302, main_c_111, main_v303, main_v304, main_v305, main_v306, main_v307, main_v308, main_v309, main_v310, main_v311, main_c_112, main_v312, main_v313, main_v314, main_v315, main_c_113, main_v316, main_c_114, main_v317, main_v318, main_v319, main_c_115, main_call31_v0, main_call31_v1, main_v320, main_c_116, main_v321, main_v322, main_v323, main_c_117, main_call32_v0, main_call32_v1, main_v324, main_c_118, main_v325, main_v326, main_c_119, main_v327, main_v328, main_v329, main_v330, main_v331, main_v332, main_c_120, main_v333, main_v334, main_c_121, main_call33_v0, main_call33_v1, main_call33_v2, main_call33_v3, main_call33_v4, main_call33_v5, main_call33_v6, main_call33_v7, main_call33_v8, main_call33_c, main_call33_v9, main_call33_v10, main_call33_v11, main_call33_c_0, main_call33_v12, main_call33_v13, main_v335, main_c_122, main_call34_v0, main_call34_v1, main_v336, main_c_123, main_v337, main_v338, main_c_124, main_call35_v0, main_call35_v1, main_call35_v2, main_call35_v3, main_call35_v4, main_call35_v5, main_call35_v6, main_call35_v7, main_call35_v8, main_call35_c, main_call35_v9, main_call35_v10, main_call35_v11, main_call35_c_0, main_call35_v12, main_call35_v13, main_v339, main_c_125, main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v340, main_c_126, main_call37_v0, main_call37_v1, main_v341, main_c_127, main_v342, main_v343, main_c_128, main_call38_v0, main_call38_c, main_call38_v1, main_call38_c_0, main_call38_v2, main_call38_v3, main_call38_v4, main_call38_c_1, main_call38_v5, main_call38_v6, main_call38_c_2, main_call38_v7, main_call38_v8, main_call38_c_3, main_call38_v9, main_call38_v10, main_call38_v11, main_call38_v12, main_call38_v13, main_call38_v14, main_v344, main_c_129, main_call39_v0, main_call39_v1, main_v345, main_v346, main_v347, main_v348, main_v349, main_c_130, main_v350, main_v351]

set_option maxHeartbeats 40000000 in
/-- Operation by operation, `tlOps1` writes exactly those. -/
theorem writes_tlOps1 : Cert.Keep.Writes (τ := τ) (tlOps1 (F := F)) wr_tlOps1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `tlOps1`. -/
theorem keep_tlOps1 (V : Valuation τ sig (Elt F)) (r : Ref sig .tc) (h : r ∉ wr_tlOps1) :
    StableHlo.after tlOps1 V (Proc.devRef .tc r) = V (Proc.devRef .tc r) :=
  Cert.Keep.after_of_writes _ _ writes_tlOps1 V r h

/-- The result references of `ptsOps2`'s 23 operation(s), in order. -/
abbrev wr_ptsOps2 : List (Ref sig .tc) :=
  [main_v352, main_v353, main_c_131, main_v354, main_c_132, main_v355, main_v356, main_cst_133, main_v357, main_c_134, main_v358, main_c_135, main_v359, main_v360, main_cst_136, main_v361, main_c_137, main_v362, main_c_138, main_v363, main_v364, main_cst_139, main_v365]

set_option maxHeartbeats 40000000 in
/-- Operation by operation, `ptsOps2` writes exactly those. -/
theorem writes_ptsOps2 : Cert.Keep.Writes (τ := τ) (ptsOps2 (F := F)) wr_ptsOps2 :=
  ⟨rfl, rfl, rfl, rfl, rfl, rfl, rfl, rfl, rfl, rfl, rfl, rfl, rfl, rfl, rfl, rfl, rfl, rfl, rfl, rfl, rfl, rfl, rfl, trivial⟩

/-- A buffer outside them keeps its contents through `ptsOps2`. -/
theorem keep_ptsOps2 (V : Valuation τ sig (Elt F)) (r : Ref sig .tc) (h : r ∉ wr_ptsOps2) :
    StableHlo.after ptsOps2 V (Proc.devRef .tc r) = V (Proc.devRef .tc r) :=
  Cert.Keep.after_of_writes _ _ writes_ptsOps2 V r h

/-- The result references of `linOps2`'s 36 operation(s), in order. -/
abbrev wr_linOps2 : List (Ref sig .tc) :=
  [main_v366, main_v367, main_v368, main_v369, main_v370, main_v371, main_v372, main_v373, main_v374, main_c_140, main_v375, main_v376, main_v377, main_v378, main_v379, main_v380, main_c_141, main_v381, main_v382, main_v383, main_c_142, main_v384, main_v385, main_v386, main_v387, main_v388, main_c_143, main_v389, main_v390, main_v391, main_v392, main_v393, main_c_144, main_call40_v0, main_call40_v1, main_v394]

set_option maxHeartbeats 40000000 in
/-- Operation by operation, `linOps2` writes exactly those. -/
theorem writes_linOps2 : Cert.Keep.Writes (τ := τ) (linOps2 (F := F)) wr_linOps2 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `linOps2`. -/
theorem keep_linOps2 (V : Valuation τ sig (Elt F)) (r : Ref sig .tc) (h : r ∉ wr_linOps2) :
    StableHlo.after linOps2 V (Proc.devRef .tc r) = V (Proc.devRef .tc r) :=
  Cert.Keep.after_of_writes _ _ writes_linOps2 V r h

/-- The result references of `tlOps2`'s 287 operation(s), in order. -/
abbrev wr_tlOps2 : List (Ref sig .tc) :=
  [main_v395, main_c_145, main_v396, main_c_146, main_v397, main_v398, main_c_147, main_v399, main_v400, main_v401, main_v402, main_v403, main_c_148, main_v404, main_v405, main_c_149, main_v406, main_v407, main_v408, main_v409, main_v410, main_v411, main_v412, main_v413, main_call41_call0_c, main_call41_call0_v0, main_v414, main_c_150, main_v415, main_v416, main_c_151, main_v417, main_c_152, main_call42_v0, main_call42_v1, main_v418, main_c_153, main_v419, main_v420, main_c_154, main_call43_v0, main_call43_v1, main_v421, main_c_155, main_v422, main_v423, main_c_156, main_v424, main_v425, main_v426, main_v427, main_v428, main_c_157, main_v429, main_v430, main_c_158, main_v431, main_v432, main_v433, main_v434, main_v435, main_c_159, main_call44_v0, main_call44_v1, main_v436, main_call45_v0, main_call45_v1_0, main_v437, main_c_160, main_v438, main_v439, main_c_161, main_v440, main_v441, main_v442, main_v443, main_v444, main_c_162, main_v445, main_v446, main_v447, main_v448, main_v449, main_c_163, main_call46_v0, main_call46_v1, main_v450, main_call47_c, main_call47_v0, main_v451, main_c_164, main_v452, main_v453, main_c_165, main_v454, main_v455, main_c_166, main_v456, main_v457, main_v458, main_v459, main_v460, main_c_167, main_v461, main_v462, main_v463, main_c_168, main_v464, main_v465, main_v466, main_c_169, main_call48_v0, main_call48_v1, main_v467, main_c_170, main_call49_v0, main_call49_v1, main_v468, main_cst_171, main_v469, main_v470, main_cst_172, main_call50_v0, main_call50_v1, main_call50_v2, main_v471, main_c_173, main_v472, main_v473, main_c_174, main_v474, main_v475, main_v476, main_c_175, main_v477, main_v478, main_c_176, main_v479, main_v480, main_v481, main_v482, main_v483, main_v484, main_v485, main_v486, main_v487, main_c_177, main_v488, main_v489, main_v490, main_v491, main_c_178, main_v492, main_c_179, main_v493, main_v494, main_v495, main_c_180, main_call51_v0, main_call51_v1, main_v496, main_c_181, main_v497, main_v498, main_v499, main_c_182, main_call52_v0, main_call52_v1, main_v500, main_c_183, main_v501, main_v502, main_c_184, main_v503, main_v504, main_v505, main_v506, main_v507, main_v508, main_c_185, main_v509, main_v510, main_c_186, main_call53_v0, main_call53_v1, main_call53_v2, main_call53_v3, main_call53_v4, main_call53_v5, main_call53_v6, main_call53_v7, main_call53_v8, main_call53_c, main_call53_v9, main_call53_v10, main_call53_v11, main_call53_c_0, main_call53_v12, main_call53_v13, main_v511, main_c_187, main_call54_v0, main_call54_v1, main_v512, main_c_188, main_v513, main_v514, main_c_189, main_call55_v0, main_call55_v1, main_call55_v2, main_call55_v3, main_call55_v4, main_call55_v5, main_call55_v6, main_call55_v7, main_call55_v8, main_call55_c, main_call55_v9, main_call55_v10, main_call55_v11, main_call55_c_0, main_call55_v12, main_call55_v13, main_v515, main_c_190, main_call56_v0, main_call56_c, main_call56_v1, main_call56_c_0, main_call56_v2, main_call56_v3, main_call56_v4, main_call56_c_1, main_call56_v5, main_call56_v6, main_call56_c_2, main_call56_v7, main_call56_v8, main_call56_c_3, main_call56_v9, main_call56_v10, main_call56_v11, main_call56_v12, main_call56_v13, main_call56_v14, main_v516, main_c_191, main_call57_v0, main_call57_v1, main_v517, main_c_192, main_v518, main_v519, main_c_193, main_call58_v0, main_call58_c, main_call58_v1, main_call58_c_0, main_call58_v2, main_call58_v3, main_call58_v4, main_call58_c_1, main_call58_v5, main_call58_v6, main_call58_c_2, main_call58_v7, main_call58_v8, main_call58_c_3, main_call58_v9, main_call58_v10, main_call58_v11, main_call58_v12, main_call58_v13, main_call58_v14, main_v520, main_c_194, main_call59_v0, main_call59_v1, main_v521, main_v522, main_v523, main_v524, main_v525, main_c_195, main_v526, main_v527]

set_option maxHeartbeats 40000000 in
/-- Operation by operation, `tlOps2` writes exactly those. -/
theorem writes_tlOps2 : Cert.Keep.Writes (τ := τ) (tlOps2 (F := F)) wr_tlOps2 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `tlOps2`. -/
theorem keep_tlOps2 (V : Valuation τ sig (Elt F)) (r : Ref sig .tc) (h : r ∉ wr_tlOps2) :
    StableHlo.after tlOps2 V (Proc.devRef .tc r) = V (Proc.devRef .tc r) :=
  Cert.Keep.after_of_writes _ _ writes_tlOps2 V r h

/-- The result references of `ptsOps3`'s 23 operation(s), in order. -/
abbrev wr_ptsOps3 : List (Ref sig .tc) :=
  [main_v528, main_v529, main_c_196, main_v530, main_c_197, main_v531, main_v532, main_cst_198, main_v533, main_c_199, main_v534, main_c_200, main_v535, main_v536, main_cst_201, main_v537, main_c_202, main_v538, main_c_203, main_v539, main_v540, main_cst_204, main_v541]

set_option maxHeartbeats 40000000 in
/-- Operation by operation, `ptsOps3` writes exactly those. -/
theorem writes_ptsOps3 : Cert.Keep.Writes (τ := τ) (ptsOps3 (F := F)) wr_ptsOps3 :=
  ⟨rfl, rfl, rfl, rfl, rfl, rfl, rfl, rfl, rfl, rfl, rfl, rfl, rfl, rfl, rfl, rfl, rfl, rfl, rfl, rfl, rfl, rfl, rfl, trivial⟩

/-- A buffer outside them keeps its contents through `ptsOps3`. -/
theorem keep_ptsOps3 (V : Valuation τ sig (Elt F)) (r : Ref sig .tc) (h : r ∉ wr_ptsOps3) :
    StableHlo.after ptsOps3 V (Proc.devRef .tc r) = V (Proc.devRef .tc r) :=
  Cert.Keep.after_of_writes _ _ writes_ptsOps3 V r h

/-- The result references of `linOps3`'s 36 operation(s), in order. -/
abbrev wr_linOps3 : List (Ref sig .tc) :=
  [main_v542, main_v543, main_v544, main_v545, main_v546, main_v547, main_v548, main_v549, main_v550, main_c_205, main_v551, main_v552, main_v553, main_v554, main_v555, main_v556, main_c_206, main_v557, main_v558, main_v559, main_c_207, main_v560, main_v561, main_v562, main_v563, main_v564, main_c_208, main_v565, main_v566, main_v567, main_v568, main_v569, main_c_209, main_call60_v0, main_call60_v1, main_v570]

set_option maxHeartbeats 40000000 in
/-- Operation by operation, `linOps3` writes exactly those. -/
theorem writes_linOps3 : Cert.Keep.Writes (τ := τ) (linOps3 (F := F)) wr_linOps3 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `linOps3`. -/
theorem keep_linOps3 (V : Valuation τ sig (Elt F)) (r : Ref sig .tc) (h : r ∉ wr_linOps3) :
    StableHlo.after linOps3 V (Proc.devRef .tc r) = V (Proc.devRef .tc r) :=
  Cert.Keep.after_of_writes _ _ writes_linOps3 V r h

/-- The result references of `tlOps3`'s 287 operation(s), in order. -/
abbrev wr_tlOps3 : List (Ref sig .tc) :=
  [main_v571, main_c_210, main_v572, main_c_211, main_v573, main_v574, main_c_212, main_v575, main_v576, main_v577, main_v578, main_v579, main_c_213, main_v580, main_v581, main_c_214, main_v582, main_v583, main_v584, main_v585, main_v586, main_v587, main_v588, main_v589, main_call61_call0_c, main_call61_call0_v0, main_v590, main_c_215, main_v591, main_v592, main_c_216, main_v593, main_c_217, main_call62_v0, main_call62_v1, main_v594, main_c_218, main_v595, main_v596, main_c_219, main_call63_v0, main_call63_v1, main_v597, main_c_220, main_v598, main_v599, main_c_221, main_v600, main_v601, main_v602, main_v603, main_v604, main_c_222, main_v605, main_v606, main_c_223, main_v607, main_v608, main_v609, main_v610, main_v611, main_c_224, main_call64_v0, main_call64_v1, main_v612, main_call65_v0, main_call65_v1_0, main_v613, main_c_225, main_v614, main_v615, main_c_226, main_v616, main_v617, main_v618, main_v619, main_v620, main_c_227, main_v621, main_v622, main_v623, main_v624, main_v625, main_c_228, main_call66_v0, main_call66_v1, main_v626, main_call67_c, main_call67_v0, main_v627, main_c_229, main_v628, main_v629, main_c_230, main_v630, main_v631, main_c_231, main_v632, main_v633, main_v634, main_v635, main_v636, main_c_232, main_v637, main_v638, main_v639, main_c_233, main_v640, main_v641, main_v642, main_c_234, main_call68_v0, main_call68_v1, main_v643, main_c_235, main_call69_v0, main_call69_v1, main_v644, main_cst_236, main_v645, main_v646, main_cst_237, main_call70_v0, main_call70_v1, main_call70_v2, main_v647, main_c_238, main_v648, main_v649, main_c_239, main_v650, main_v651, main_v652, main_c_240, main_v653, main_v654, main_c_241, main_v655, main_v656, main_v657, main_v658, main_v659, main_v660, main_v661, main_v662, main_v663, main_c_242, main_v664, main_v665, main_v666, main_v667, main_c_243, main_v668, main_c_244, main_v669, main_v670, main_v671, main_c_245, main_call71_v0, main_call71_v1, main_v672, main_c_246, main_v673, main_v674, main_v675, main_c_247, main_call72_v0, main_call72_v1, main_v676, main_c_248, main_v677, main_v678, main_c_249, main_v679, main_v680, main_v681, main_v682, main_v683, main_v684, main_c_250, main_v685, main_v686, main_c_251, main_call73_v0, main_call73_v1, main_call73_v2, main_call73_v3, main_call73_v4, main_call73_v5, main_call73_v6, main_call73_v7, main_call73_v8, main_call73_c, main_call73_v9, main_call73_v10, main_call73_v11, main_call73_c_0, main_call73_v12, main_call73_v13, main_v687, main_c_252, main_call74_v0, main_call74_v1, main_v688, main_c_253, main_v689, main_v690, main_c_254, main_call75_v0, main_call75_v1, main_call75_v2, main_call75_v3, main_call75_v4, main_call75_v5, main_call75_v6, main_call75_v7, main_call75_v8, main_call75_c, main_call75_v9, main_call75_v10, main_call75_v11, main_call75_c_0, main_call75_v12, main_call75_v13, main_v691, main_c_255, main_call76_v0, main_call76_c, main_call76_v1, main_call76_c_0, main_call76_v2, main_call76_v3, main_call76_v4, main_call76_c_1, main_call76_v5, main_call76_v6, main_call76_c_2, main_call76_v7, main_call76_v8, main_call76_c_3, main_call76_v9, main_call76_v10, main_call76_v11, main_call76_v12, main_call76_v13, main_call76_v14, main_v692, main_c_256, main_call77_v0, main_call77_v1, main_v693, main_c_257, main_v694, main_v695, main_c_258, main_call78_v0, main_call78_c, main_call78_v1, main_call78_c_0, main_call78_v2, main_call78_v3, main_call78_v4, main_call78_c_1, main_call78_v5, main_call78_v6, main_call78_c_2, main_call78_v7, main_call78_v8, main_call78_c_3, main_call78_v9, main_call78_v10, main_call78_v11, main_call78_v12, main_call78_v13, main_call78_v14, main_v696, main_c_259, main_call79_v0, main_call79_v1, main_v697, main_v698, main_v699, main_v700, main_v701, main_c_260, main_v702, main_v703]

set_option maxHeartbeats 40000000 in
/-- Operation by operation, `tlOps3` writes exactly those. -/
theorem writes_tlOps3 : Cert.Keep.Writes (τ := τ) (tlOps3 (F := F)) wr_tlOps3 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- A buffer outside them keeps its contents through `tlOps3`. -/
theorem keep_tlOps3 (V : Valuation τ sig (Elt F)) (r : Ref sig .tc) (h : r ∉ wr_tlOps3) :
    StableHlo.after tlOps3 V (Proc.devRef .tc r) = V (Proc.devRef .tc r) :=
  Cert.Keep.after_of_writes _ _ writes_tlOps3 V r h

/-- The result references of `finOps`'s 3 operation(s), in order. -/
abbrev wr_finOps : List (Ref sig .tc) :=
  [main_v704, main_v705, main_v706]

set_option maxHeartbeats 40000000 in
/-- Operation by operation, `finOps` writes exactly those. -/
theorem writes_finOps : Cert.Keep.Writes (τ := τ) (finOps (F := F)) wr_finOps :=
  ⟨rfl, rfl, rfl, trivial⟩

/-- A buffer outside them keeps its contents through `finOps`. -/
theorem keep_finOps (V : Valuation τ sig (Elt F)) (r : Ref sig .tc) (h : r ∉ wr_finOps) :
    StableHlo.after finOps V (Proc.devRef .tc r) = V (Proc.devRef .tc r) :=
  Cert.Keep.after_of_writes _ _ writes_finOps V r h

end Cert.ReferenceIdeal.Hand

end
-- ==== Proof.PtsBridge.lean ====
/-
  The batches' point arrays are the same function of the argument in the kernel program and in the reference.

  For each batch I the reference's stretch of operations ptsOpsI and the kernel program's leading host operations
  compute the batch's point array by the same operations applied to the argument: the slice of row I, the reshape
  of that row to a 300000 x 5 matrix, and three scatters that set the entries (0,0), (0,1), (0,2) to 3/4, 1/4 and 2.
  Read at the result buffer, each side is that composite applied to the contents of its own argument buffer
  (operations after the one that writes the buffer leave it alone); under the hypothesis that the two argument
  buffers hold the same array, the two composites are one term, the two programs spelling the same shapes and
  the same stated shape facts each under its own names.
-/
import proofs.«111982_j16939351015723_2_alg».proof.Proof.RefOps
import proofs.«111982_j16939351015723_2_alg».proof.Proof.Gen.KernelIdeal.Launch
import Idealize.ShloMosaic.Lib.StableHlo.Run
import Idealize.ShloMosaic.PureOps.Ideal

set_option maxRecDepth 16384

noncomputable section

namespace Cert.Pts

open Idealize.ShloMosaic Idealize.ShloMosaic.StableHlo

/-- Batch 0: both programs compute its point array from the argument by the same operations — the slice of row 0,
    the reshape to a matrix, and the three entries (0,0), (0,1), (0,2) overridden by 3/4, 1/4 and 2. -/
theorem pts0 (VK : Valuation Cert.KernelIdeal.τ Cert.KernelIdeal.sig (Elt Ideal))
    (WR : Valuation Cert.ReferenceIdeal.τ Cert.ReferenceIdeal.sig (Elt Ideal))
    (h : WR (Proc.devRef .tc Cert.ReferenceIdeal.main_arg0) = VK (Proc.devRef .tc Cert.KernelIdeal.main_arg0)) :
    StableHlo.after (Cert.ReferenceIdeal.Hand.ptsOps0 (F := Ideal)) WR (Proc.devRef .tc Cert.ReferenceIdeal.main_v13)
      = StableHlo.after (Cert.KernelIdeal.Gen.hostOps0 (F := Ideal)) VK (Proc.devRef .tc Cert.KernelIdeal.main_v13) := by
  after_results_simp
  rw [h]
  rfl

/-- Batch 1: both programs compute its point array from the argument by the same operations — the slice of row 1,
    the reshape to a matrix, and the three entries (0,0), (0,1), (0,2) overridden by 3/4, 1/4 and 2. -/
theorem pts1 (VK : Valuation Cert.KernelIdeal.τ Cert.KernelIdeal.sig (Elt Ideal))
    (WR : Valuation Cert.ReferenceIdeal.τ Cert.ReferenceIdeal.sig (Elt Ideal))
    (h : WR (Proc.devRef .tc Cert.ReferenceIdeal.main_arg0) = VK (Proc.devRef .tc Cert.KernelIdeal.main_arg0)) :
    StableHlo.after (Cert.ReferenceIdeal.Hand.ptsOps1 (F := Ideal)) WR (Proc.devRef .tc Cert.ReferenceIdeal.main_v189)
      = StableHlo.after (Cert.KernelIdeal.Gen.hostOps0 (F := Ideal)) VK (Proc.devRef .tc Cert.KernelIdeal.main_v27) := by
  after_results_simp
  rw [h]
  rfl

/-- Batch 2: both programs compute its point array from the argument by the same operations — the slice of row 2,
    the reshape to a matrix, and the three entries (0,0), (0,1), (0,2) overridden by 3/4, 1/4 and 2. -/
theorem pts2 (VK : Valuation Cert.KernelIdeal.τ Cert.KernelIdeal.sig (Elt Ideal))
    (WR : Valuation Cert.ReferenceIdeal.τ Cert.ReferenceIdeal.sig (Elt Ideal))
    (h : WR (Proc.devRef .tc Cert.ReferenceIdeal.main_arg0) = VK (Proc.devRef .tc Cert.KernelIdeal.main_arg0)) :
    StableHlo.after (Cert.ReferenceIdeal.Hand.ptsOps2 (F := Ideal)) WR (Proc.devRef .tc Cert.ReferenceIdeal.main_v365)
      = StableHlo.after (Cert.KernelIdeal.Gen.hostOps0 (F := Ideal)) VK (Proc.devRef .tc Cert.KernelIdeal.main_v41) := by
  after_results_simp
  rw [h]
  rfl

/-- Batch 3: both programs compute its point array from the argument by the same operations — the slice of row 3,
    the reshape to a matrix, and the three entries (0,0), (0,1), (0,2) overridden by 3/4, 1/4 and 2. -/
theorem pts3 (VK : Valuation Cert.KernelIdeal.τ Cert.KernelIdeal.sig (Elt Ideal))
    (WR : Valuation Cert.ReferenceIdeal.τ Cert.ReferenceIdeal.sig (Elt Ideal))
    (h : WR (Proc.devRef .tc Cert.ReferenceIdeal.main_arg0) = VK (Proc.devRef .tc Cert.KernelIdeal.main_arg0)) :
    StableHlo.after (Cert.ReferenceIdeal.Hand.ptsOps3 (F := Ideal)) WR (Proc.devRef .tc Cert.ReferenceIdeal.main_v541)
      = StableHlo.after (Cert.KernelIdeal.Gen.hostOps0 (F := Ideal)) VK (Proc.devRef .tc Cert.KernelIdeal.main_v55) := by
  after_results_simp
  rw [h]
  rfl

end Cert.Pts

end
-- ==== Proof.LinSpec.lean ====
/-
  The one place where the two programs differ: the cell id of each point and its validity mask.

  A point with coordinates (x₀, x₁, x₂) falls into the cell with coordinates eₖ = ⌊(xₖ − cₖ) / dₖ⌋ (as signed
  32-bit words), is VALID when 0 ≤ e₀, e₁ < 512 and 0 ≤ e₂ < 1, and has the cell id (e₂ · 512 + e₁) · 512 + e₀
  when valid and 262144 otherwise. The reference computes the three coordinates as one [300000, 3] array and
  reduces the six comparisons along its rows; the kernel computes them as three rows of a [3, 300000] block and
  chains the six comparisons. Both are the same function of the same three extended reals (`lin_eq`), and since a
  valid point's id is below 262144 the mask is recovered from the id as "id ≠ 262144" (`valid_eq`). Everything
  here is stated on pure terms at the ideal instance: no program is run.
-/
import proofs.«111982_j16939351015723_2_alg».proof.KernelIdeal
import proofs.«111982_j16939351015723_2_alg».proof.ReferenceIdeal
import proofs.«111982_j16939351015723_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.Affine
import Idealize.ShloMosaic.Lib.ReduceAll
import Idealize.ShloMosaic.PureOps.Ideal.Laws

noncomputable section

namespace Cert.Lin

open Idealize.ShloMosaic Idealize.ShloMosaic.ValueIdx

/-! ## The reference's cell id and validity mask, as the operations compose -/

section Reference
variable [Cert.ReferenceIdeal.Facts]
open Cert.ReferenceIdeal Cert.ReferenceIdeal.Facts₀

/-- The integer cell coordinates of every point: the first three columns of the point array, minus the
    grid's origin, divided by the cell's extents, rounded down and converted to signed 32-bit words. -/
def cellR (p : FVec Ideal S300000x5 .f32) : IVec S300000x3 32 :=
  have v14 : FVec Ideal S300000x3 .f32 := extractStridedSlice S300000x3 ![0, 0] p slices_S300000x5_S300000x3_0_0
  have cst : FVec Ideal S3 .f32 := fun i => FloatOps.ofBits (F := Ideal) .f32 (lit0 (S3.rowMajor i))
  have v15 : FVec Ideal S1x3 .f32 := broadcastInDim S1x3 ![1] bcast_S3_S1x3_1 cst
  have v16 : FVec Ideal S300000x3 .f32 := broadcastInDim S300000x3 ![0, 1] bcast_S1x3_S300000x3_0_1 v15
  have v17 : FVec Ideal S300000x3 .f32 := subf v14 v16
  have cst_0 : FVec Ideal S3 .f32 := fun i => FloatOps.ofBits (F := Ideal) .f32 (lit1 (S3.rowMajor i))
  have v18 : FVec Ideal S1x3 .f32 := broadcastInDim S1x3 ![1] bcast_S3_S1x3_1 cst_0
  have v19 : FVec Ideal S300000x3 .f32 := broadcastInDim S300000x3 ![0, 1] bcast_S1x3_S300000x3_0_1 v18
  have v20 : FVec Ideal S300000x3 .f32 := Host.divf v17 v19
  have v21 : FVec Ideal S300000x3 .f32 := Host.floor v20
  fptosi 32 v21

/-- The validity mask: every cell coordinate is at least 0 and below the grid's extent on its axis. -/
def validR (p : FVec Ideal S300000x5 .f32) : IVec S300000 1 :=
  have v22 : IVec S300000x3 32 := cellR p
  have v23 : IVec S300000x3 32 := broadcastInDim S300000x3 ![] bcast_S_S300000x3 (constantI S_ 32 0#32)
  have v24 : IVec S300000x3 1 := cmpi .sge v22 v23
  have c : IVec S3 32 := fun i => lit2 (S3.rowMajor i)
  have v25 : IVec S1x3 32 := broadcastInDim S1x3 ![1] bcast_S3_S1x3_1 c
  have v26 : IVec S300000x3 32 := broadcastInDim S300000x3 ![0, 1] bcast_S1x3_S300000x3_0_1 v25
  have v27 : IVec S300000x3 1 := cmpi .slt v22 v26
  have v28 : IVec S300000x3 1 := andi v24 v27
  Host.reduce IntOp.andi v28 (constantI S_ 1 1#1) reducesTo_S300000x3_S300000_d1 h_S_

/-- The cell id before masking: ((e₂ · 512) + e₁) · 512 + e₀ in 32-bit words. -/
def rawR (p : FVec Ideal S300000x5 .f32) : IVec S300000 32 :=
  have v22 : IVec S300000x3 32 := cellR p
  have v30 : IVec S300000x1 32 := extractStridedSlice S300000x1 ![0, 2] v22 slices_S300000x3_S300000x1_0_2
  have v31 : IVec S300000 32 := shapeCast S300000 v30 shapeCasts_S300000x1_S300000
  have v32 : IVec S300000 32 := broadcastInDim S300000 ![] bcast_S_S300000 (constantI S_ 32 512#32)
  have v33 : IVec S300000 32 := muli v31 v32
  have v34 : IVec S300000x1 32 := extractStridedSlice S300000x1 ![0, 1] v22 slices_S300000x3_S300000x1_0_1
  have v35 : IVec S300000 32 := shapeCast S300000 v34 shapeCasts_S300000x1_S300000
  have v36 : IVec S300000 32 := addi v33 v35
  have v37 : IVec S300000 32 := broadcastInDim S300000 ![] bcast_S_S300000 (constantI S_ 32 512#32)
  have v38 : IVec S300000 32 := muli v36 v37
  have v39 : IVec S300000x1 32 := extractStridedSlice S300000x1 ![0, 0] v22 slices_S300000x3_S300000x1_0_0
  have v40 : IVec S300000 32 := shapeCast S300000 v39 shapeCasts_S300000x1_S300000
  addi v38 v40

/-- The cell id: the raw id where the mask is set, 262144 elsewhere. -/
def linR (p : FVec Ideal S300000x5 .f32) : IVec S300000 32 :=
  select (validR p) (rawR p) (broadcastInDim S300000 ![] bcast_S_S300000 (constantI S_ 32 262144#32))

end Reference

/-! ## Small facts on one-bit words and folds -/

/-- Two one-bit words are equal when each is 1 exactly when the other is. -/
theorem bit_ext : ∀ {a b : BitVec 1}, (a = 1#1 ↔ b = 1#1) → a = b := by decide

/-- A property of the three column numbers holds of each when it holds of 0, 1 and 2. -/
theorem fin3_cases {P : Fin 3 → Prop} (h0 : P 0) (h1 : P 1) (h2 : P 2) : ∀ b, P b
  | ⟨0, _⟩ => h0
  | ⟨1, _⟩ => h1
  | ⟨2, _⟩ => h2

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

section Reference
variable [Cert.ReferenceIdeal.Facts]
open Cert.ReferenceIdeal Cert.ReferenceIdeal.Facts₀

/-- Dropping the column of an index of the [300000, 3] array leaves its row. -/
theorem drop_row (n : Fin 300000) (k : Fin 3) :
    reducesTo_S300000x3_S300000_d1.drop (ix2 n k) = ix1 n := by
  funext b
  match b with
  | ⟨0, _⟩ => exact Fin.ext (Shape.ReducesTo.drop_apply_val_of_eq _ (ix2 n k) ⟨0, by decide⟩ ⟨0, by decide⟩)

/-- The reduction by `and` along the rows of a [300000, 3] array of one-bit words, from 1: the
    conjunction of the row's three entries. -/
theorem reduce_andi_row (x : IVec S300000x3 1) (n : Fin 300000) :
    Host.reduce IntOp.andi x (constantI S_ 1 1#1) reducesTo_S300000x3_S300000_d1 h_S_ (ix1 n)
      = IntOp.andi (IntOp.andi (x (ix2 n 0)) (x (ix2 n 1))) (x (ix2 n 2)) := by
  apply bit_ext
  rw [IntOp.andi_eq_one, IntOp.andi_eq_one]
  constructor
  · intro e
    exact ⟨⟨Host.reduce_andi_eq_one x _ _ _ _ e _ (drop_row n 0), Host.reduce_andi_eq_one x _ _ _ _ e _ (drop_row n 1)⟩,
      Host.reduce_andi_eq_one x _ _ _ _ e _ (drop_row n 2)⟩
  · rintro ⟨⟨h0, h1⟩, h2⟩
    rw [Host.reduce_eq_foldl]
    refine foldl_andi_one x _ (fun i hi => ?_)
    have hd := of_decide_eq_true (List.mem_filter.1 hi).2
    obtain ⟨a, b, rfl⟩ : ∃ (a : Fin 300000) (b : Fin 3), i = ix2 a b := ⟨i 0, i 1, eq_ix2 i⟩
    have ha : a = n := by
      have := congrFun hd ⟨0, by decide⟩
      rw [drop_row] at this
      exact this
    subst ha
    exact fin3_cases (P := fun b => x (ix2 a b) = 1#1) h0 h1 h2 b

end Reference

/-! ## One cell coordinate of one point, and the two programs' constants -/

/-- The cell coordinate of the extended real `x` on an axis whose origin and cell extent are the floats
    with the words `c` and `d`: ⌊(x − c) / d⌋ as a signed 32-bit word. -/
def cellOf (x : Ideal .f32) (c d : BitVec 32) : BitVec 32 :=
  Ideal.fptosi 32 (Ideal.liftRound Int.floor (Ideal.div (x - Ideal.ofBits .f32 c) (Ideal.ofBits .f32 d)))

/-- The three axes' origins, cell extents (as f32 words) and grid extents. -/
def org : Fin 3 → BitVec 32 := ![0xC24CCCCD#32, 0xC24CCCCD#32, 0xC0A00000#32]
def ext : Fin 3 → BitVec 32 := ![0x3E4CCCCD#32, 0x3E4CCCCD#32, 0x41000000#32]
def dim : Fin 3 → BitVec 32 := ![512#32, 512#32, 1#32]

section Reference
variable [Cert.ReferenceIdeal.Facts]
open Cert.ReferenceIdeal Cert.ReferenceIdeal.Facts₀

/-- The row-major position of a rank-1 index of extent 3 is its coordinate. -/
theorem rowMajor3 (k : Fin 3) : (S3.rowMajor (ix1 k) : Fin 3) = k := Fin.ext (Shape.rowMajor_val_one _)

theorem lit0_eq : ∀ k : Fin 3, lit0 k = org k := by decide
theorem lit1_eq : ∀ k : Fin 3, lit1 k = ext k := by decide
theorem lit2_eq : ∀ k : Fin 3, lit2 k = dim k := by decide

/-- The first three columns of the point array, read at (n, k). -/
theorem slice3_apply {α : Type} (p : S300000x5.Idx → α) (n : Fin 300000) (k : Fin 3) :
    extractStridedSlice S300000x3 ![0, 0] p slices_S300000x5_S300000x3_0_0 (ix2 n k)
      = p (ix2 n (Fin.castLE (by decide) k)) :=
  extractStridedSlice_apply _ _ _ _ _ (fun a => match a with
    | ⟨0, _⟩ => by show n.val = 0 + n.val; omega
    | ⟨1, _⟩ => by show k.val = 0 + k.val; omega)

/-- A length-3 vector broadcast along the rows of a [300000, 3] array, read at (n, k). -/
theorem bcast3_apply {α : Type} (c : S3.Idx → α) (n : Fin 300000) (k : Fin 3) :
    broadcastInDim S300000x3 ![0, 1] bcast_S1x3_S300000x3_0_1 (broadcastInDim S1x3 ![1] bcast_S3_S1x3_1 c) (ix2 n k)
      = c (ix1 k) := by
  refine (broadcastInDim_apply _ _ _ (ix2 n k) (ix2 (0 : Fin 1) k) (fun a => match a with
    | ⟨0, _⟩ => rfl
    | ⟨1, _⟩ => rfl)).trans ?_
  exact broadcastInDim_apply _ _ _ (ix2 (0 : Fin 1) k) (ix1 k) (fun a => match a with
    | ⟨0, _⟩ => rfl)

/-- Column k of the [300000, 3] array as a flat vector, read at n. -/
theorem col_apply {α : Type} (x : S300000x3.Idx → α) (n : Fin 300000) :
    (shapeCast S300000 (extractStridedSlice S300000x1 ![0, 0] x slices_S300000x3_S300000x1_0_0) shapeCasts_S300000x1_S300000 (ix1 n)
      = x (ix2 n 0))
    ∧ (shapeCast S300000 (extractStridedSlice S300000x1 ![0, 1] x slices_S300000x3_S300000x1_0_1) shapeCasts_S300000x1_S300000 (ix1 n)
      = x (ix2 n 1))
    ∧ (shapeCast S300000 (extractStridedSlice S300000x1 ![0, 2] x slices_S300000x3_S300000x1_0_2) shapeCasts_S300000x1_S300000 (ix1 n)
      = x (ix2 n 2)) := by
  have hc : (S300000x1.rowMajor (ix2 n (0 : Fin 1))).val = (S300000.rowMajor (ix1 n)).val := by
    rw [Shape.rowMajor_val_two, Shape.rowMajor_val_one]
    show n.val * 1 + 0 = n.val
    omega
  refine ⟨?_, ?_, ?_⟩
  · refine (shapeCast_apply _ _ (ix1 n) (ix2 n (0 : Fin 1)) hc).trans ?_
    exact extractStridedSlice_apply _ _ _ _ _ (fun a => match a with
      | ⟨0, _⟩ => by show n.val = 0 + n.val; omega
      | ⟨1, _⟩ => by show 0 = 0 + 0; omega)
  · refine (shapeCast_apply _ _ (ix1 n) (ix2 n (0 : Fin 1)) hc).trans ?_
    exact extractStridedSlice_apply _ _ _ _ _ (fun a => match a with
      | ⟨0, _⟩ => by show n.val = 0 + n.val; omega
      | ⟨1, _⟩ => by show 1 = 1 + 0; omega)
  · refine (shapeCast_apply _ _ (ix1 n) (ix2 n (0 : Fin 1)) hc).trans ?_
    exact extractStridedSlice_apply _ _ _ _ _ (fun a => match a with
      | ⟨0, _⟩ => by show n.val = 0 + n.val; omega
      | ⟨1, _⟩ => by show 2 = 2 + 0; omega)

/-- The reference's cell coordinate k of point n. -/
theorem cellR_apply (p : FVec Ideal S300000x5 .f32) (n : Fin 300000) (k : Fin 3) :
    cellR p (ix2 n k) = cellOf (p (ix2 n (Fin.castLE (by decide) k))) (org k) (ext k) := by
  unfold cellR
  dsimp only [fptosi, Host.floor, Host.divf, subf]
  rw [slice3_apply, bcast3_apply, bcast3_apply, rowMajor3, lit0_eq, lit1_eq]
  rfl

end Reference

/-! ## The kernel's payload at an index -/

section Kernel
open Cert.KernelIdeal Cert.KernelIdeal.Gen

/-- What the kernel stores for an input block. -/
def linK (x0 : Vec Ideal S1x3x300000 .f32) : IVec S1x1x300000 32 :=
  k0_pay1 (k0_pay3 x0) (k0_pay6 x0) (k0_pay7 x0)

/-- The input block viewed [3, 300000], read at (k, n). -/
theorem pay2_apply (x0 : Vec Ideal S1x3x300000 .f32) (k : Fin 3) (n : Fin 300000) :
    k0_pay2 x0 (ix2 k n) = x0 (ix3 (0 : Fin 1) k n) := by
  unfold k0_pay2
  refine shapeCast_apply _ _ (ix2 k n) (ix3 (0 : Fin 1) k n) ?_
  rw [Shape.rowMajor_val_three, Shape.rowMajor_val_two]
  show (0 * 3 + k.val) * 300000 + n.val = k.val * 300000 + n.val
  omega

/-- Row k of the [3, 300000] view, read at n. -/
theorem row_apply (x0 : Vec Ideal S1x3x300000 .f32) (n : Fin 300000) :
    (extractStridedSlice S1x300000 ![0, 0] (k0_pay2 x0) slices_S3x300000_o0_0_S1x300000 (ix2 (0 : Fin 1) n)
      = x0 (ix3 (0 : Fin 1) (0 : Fin 3) n))
    ∧ (extractStridedSlice S1x300000 ![1, 0] (k0_pay2 x0) slices_S3x300000_o1_0_S1x300000 (ix2 (0 : Fin 1) n)
      = x0 (ix3 (0 : Fin 1) (1 : Fin 3) n))
    ∧ (extractStridedSlice S1x300000 ![2, 0] (k0_pay2 x0) slices_S3x300000_o2_0_S1x300000 (ix2 (0 : Fin 1) n)
      = x0 (ix3 (0 : Fin 1) (2 : Fin 3) n)) := by
  refine ⟨?_, ?_, ?_⟩
  · refine (extractStridedSlice_apply _ _ _ _ (ix2 (0 : Fin 3) n) (fun a => match a with
      | ⟨0, _⟩ => by show 0 = 0 + 0; omega
      | ⟨1, _⟩ => by show n.val = 0 + n.val; omega)).trans ?_
    exact pay2_apply x0 0 n
  · refine (extractStridedSlice_apply _ _ _ _ (ix2 (1 : Fin 3) n) (fun a => match a with
      | ⟨0, _⟩ => by show 1 = 1 + 0; omega
      | ⟨1, _⟩ => by show n.val = 0 + n.val; omega)).trans ?_
    exact pay2_apply x0 1 n
  · refine (extractStridedSlice_apply _ _ _ _ (ix2 (2 : Fin 3) n) (fun a => match a with
      | ⟨0, _⟩ => by show 2 = 2 + 0; omega
      | ⟨1, _⟩ => by show n.val = 0 + n.val; omega)).trans ?_
    exact pay2_apply x0 2 n

/-- The kernel's three cell coordinates of point n. -/
theorem pay3_apply (x0 : Vec Ideal S1x3x300000 .f32) (n : Fin 300000) :
    k0_pay3 x0 (ix2 (0 : Fin 1) n) = cellOf (x0 (ix3 (0 : Fin 1) (0 : Fin 3) n)) (org 0) (ext 0) := by
  unfold k0_pay3
  dsimp only [fptosi, floor, divf, subf, broadcast]
  rw [(row_apply x0 n).1]
  rfl

theorem pay4_apply (x0 : Vec Ideal S1x3x300000 .f32) (n : Fin 300000) :
    k0_pay4 x0 (ix2 (0 : Fin 1) n) = cellOf (x0 (ix3 (0 : Fin 1) (1 : Fin 3) n)) (org 1) (ext 1) := by
  unfold k0_pay4
  dsimp only [fptosi, floor, divf, subf, broadcast]
  rw [(row_apply x0 n).2.1]
  rfl

theorem pay5_apply (x0 : Vec Ideal S1x3x300000 .f32) (n : Fin 300000) :
    k0_pay5 x0 (ix2 (0 : Fin 1) n) = cellOf (x0 (ix3 (0 : Fin 1) (2 : Fin 3) n)) (org 2) (ext 2) := by
  unfold k0_pay5
  dsimp only [fptosi, floor, divf, subf, broadcast]
  rw [(row_apply x0 n).2.2]
  rfl

end Kernel

/-! ## The mask and the raw id from three cell coordinates -/

/-- The bit "the coordinate `e` lies in [0, d)", both comparisons signed. -/
def inside (e d : BitVec 32) : BitVec 1 := IntOp.andi (IntOp.cmpi .sge e 0#32) (IntOp.cmpi .slt e d)

/-- The raw cell id ((e₂ · 512) + e₁) · 512 + e₀ in 32-bit words. -/
def rawOf (e0 e1 e2 : BitVec 32) : BitVec 32 :=
  IntOp.addi (IntOp.muli (IntOp.addi (IntOp.muli e2 512#32) e1) 512#32) e0

/-- The mask as the reference computes it: the conjunction of the three axes' bits. -/
def maskOf (e0 e1 e2 : BitVec 32) : BitVec 1 :=
  IntOp.andi (IntOp.andi (inside e0 (dim 0)) (inside e1 (dim 1))) (inside e2 (dim 2))

/-- The kernel's chain of six comparisons, nested to the left, is the conjunction of the three axes' bits. -/
theorem chain_eq_mask (e0 e1 e2 : BitVec 32) :
    IntOp.andi (IntOp.andi (IntOp.andi (IntOp.andi (IntOp.andi (IntOp.cmpi .sge e0 0#32) (IntOp.cmpi .slt e0 512#32))
      (IntOp.cmpi .sge e1 0#32)) (IntOp.cmpi .slt e1 512#32)) (IntOp.cmpi .sge e2 0#32)) (IntOp.cmpi .slt e2 1#32)
      = maskOf e0 e1 e2 := by
  show _ = IntOp.andi (IntOp.andi (IntOp.andi (IntOp.cmpi .sge e0 0#32) (IntOp.cmpi .slt e0 512#32))
    (IntOp.andi (IntOp.cmpi .sge e1 0#32) (IntOp.cmpi .slt e1 512#32))) (IntOp.andi (IntOp.cmpi .sge e2 0#32) (IntOp.cmpi .slt e2 1#32))
  generalize IntOp.cmpi .sge e0 0#32 = a
  generalize IntOp.cmpi .slt e0 512#32 = b
  generalize IntOp.cmpi .sge e1 0#32 = c
  generalize IntOp.cmpi .slt e1 512#32 = d
  generalize IntOp.cmpi .sge e2 0#32 = e
  generalize IntOp.cmpi .slt e2 1#32 = f
  revert a b c d e f
  decide

/-- A word that reads signed in [0, b) reads unsigned below b. -/
theorem toNat_lt_of_inside {e d : BitVec 32} {b : Nat} (hd : d.toInt = b) (h : inside e d = 1#1) : e.toNat < b := by
  unfold inside at h
  rw [IntOp.andi_eq_one, IntOp.cmpi_sge, IntOp.cmpi_slt, show (0#32 : BitVec 32).toInt = 0 from by decide, hd] at h
  have hlt := BitVec.toInt_pos_iff.mp h.1
  have := BitVec.toInt_eq_toNat_of_lt hlt
  omega

/-- Where the mask is set the raw id is e₁ · 512 + e₀ with both below 512: below 262144, so not 262144. -/
theorem rawOf_ne_of_mask {e0 e1 e2 : BitVec 32} (h : maskOf e0 e1 e2 = 1#1) : rawOf e0 e1 e2 ≠ 262144#32 := by
  unfold maskOf at h
  rw [IntOp.andi_eq_one, IntOp.andi_eq_one] at h
  obtain ⟨⟨h0, h1⟩, h2⟩ := h
  have b0 := toNat_lt_of_inside (b := 512) (by decide) h0
  have b1 := toNat_lt_of_inside (b := 512) (by decide) h1
  have b2 := toNat_lt_of_inside (b := 1) (by decide) h2
  intro heq
  have := congrArg BitVec.toNat heq
  simp only [rawOf, IntOp.addi, IntOp.muli, BitVec.toNat_add, BitVec.toNat_mul, BitVec.toNat_ofNat] at this
  omega

/-! ## The reference's mask, raw id and cell id at a point -/

section Reference
variable [Cert.ReferenceIdeal.Facts]
open Cert.ReferenceIdeal Cert.ReferenceIdeal.Facts₀

/-- The reference's mask at point n: the conjunction of the three axes' bits. -/
theorem validR_apply (p : FVec Ideal S300000x5 .f32) (n : Fin 300000) :
    validR p (ix1 n) = maskOf (cellR p (ix2 n 0)) (cellR p (ix2 n 1)) (cellR p (ix2 n 2)) := by
  unfold validR
  dsimp only
  rw [reduce_andi_row]
  dsimp only [andi, cmpi]
  rw [bcast3_apply, bcast3_apply, bcast3_apply, rowMajor3, rowMajor3, rowMajor3, lit2_eq, lit2_eq, lit2_eq]
  rfl

/-- The reference's raw id at point n. -/
theorem rawR_apply (p : FVec Ideal S300000x5 .f32) (n : Fin 300000) :
    rawR p (ix1 n) = rawOf (cellR p (ix2 n 0)) (cellR p (ix2 n 1)) (cellR p (ix2 n 2)) := by
  unfold rawR
  dsimp only [addi, muli]
  rw [(col_apply _ n).1, (col_apply _ n).2.1, (col_apply _ n).2.2]
  rfl

/-- The reference's cell id at point n. -/
theorem linR_apply (p : FVec Ideal S300000x5 .f32) (n : Fin 300000) :
    linR p (ix1 n) = Scalar.select (validR p (ix1 n)) (rawR p (ix1 n)) 262144#32 := rfl

end Reference

/-! ## The kernel's mask, raw id and stored word at a point -/

section Kernel
open Cert.KernelIdeal Cert.KernelIdeal.Gen

/-- The kernel's mask at point n: its chain of six comparisons. -/
theorem pay6_apply (x0 : Vec Ideal S1x3x300000 .f32) (n : Fin 300000) :
    k0_pay6 x0 (ix2 (0 : Fin 1) n)
      = maskOf (k0_pay3 x0 (ix2 (0 : Fin 1) n)) (k0_pay4 x0 (ix2 (0 : Fin 1) n)) (k0_pay5 x0 (ix2 (0 : Fin 1) n)) :=
  chain_eq_mask _ _ _

/-- What the kernel stores at point n. -/
theorem linK_apply (x0 : Vec Ideal S1x3x300000 .f32) (n : Fin 300000) :
    linK x0 (ix3 (0 : Fin 1) (0 : Fin 1) n)
      = Scalar.select (k0_pay6 x0 (ix2 (0 : Fin 1) n))
          (rawOf (k0_pay3 x0 (ix2 (0 : Fin 1) n)) (k0_pay4 x0 (ix2 (0 : Fin 1) n)) (k0_pay5 x0 (ix2 (0 : Fin 1) n)))
          262144#32 := by
  unfold linK k0_pay1
  refine (shapeCast_apply _ _ (ix3 (0 : Fin 1) (0 : Fin 1) n) (ix2 (0 : Fin 1) n) ?_).trans rfl
  rw [Shape.rowMajor_val_three, Shape.rowMajor_val_two]
  show 0 * 300000 + n.val = (0 * 1 + 0) * 300000 + n.val
  omega

end Kernel

/-! ## The two programs agree, and the mask is recovered from the cell id -/

section Main
open Cert.KernelIdeal.Gen

/-- THE CELL ID: for an input block holding the first three columns of the point array transposed, the kernel
    stores at point n the reference's cell id of point n — the same three cell coordinates, the same
    conjunction of six comparisons, the same raw id and the same select. -/
theorem lin_eq [Cert.ReferenceIdeal.Facts] (p : FVec Ideal Cert.ReferenceIdeal.S300000x5 .f32)
    (x0 : Vec Ideal Cert.KernelIdeal.S1x3x300000 .f32)
    (h : ∀ (k : Fin 3) (n : Fin 300000), x0 (ix3 (0 : Fin 1) k n) = p (ix2 n (Fin.castLE (by decide) k)))
    (n : Fin 300000) :
    linK x0 (ix3 (0 : Fin 1) (0 : Fin 1) n) = linR p (ix1 n) := by
  rw [linK_apply, linR_apply, validR_apply, rawR_apply, pay6_apply, pay3_apply, pay4_apply, pay5_apply,
    cellR_apply, cellR_apply, cellR_apply, h, h, h]

/-- THE MASK FROM THE CELL ID: the cell id differs from 262144 exactly where the mask is set. -/
theorem valid_eq_elt [Cert.ReferenceIdeal.Facts] (p : FVec Ideal Cert.ReferenceIdeal.S300000x5 .f32) (n : Fin 300000) :
    IntOp.cmpi .ne (linR p (ix1 n)) 262144#32 = validR p (ix1 n) := by
  rw [linR_apply]
  rcases BitVec.eq_zero_or_eq_one (validR p (ix1 n)) with hv | hv
  · rw [hv, select_zero]; decide
  · rw [hv, select_one, IntOp.cmpi_ne, rawR_apply]
    rw [validR_apply] at hv
    exact rawOf_ne_of_mask hv

/-- The same with the comparison spelt as the kernel's program prints it: the cell ids compared, not equal,
    with the scalar 262144 broadcast to the vector's shape. -/
theorem valid_eq [Cert.KernelIdeal.Facts] [Cert.ReferenceIdeal.Facts] (p : FVec Ideal Cert.ReferenceIdeal.S300000x5 .f32)
    (n : Fin 300000) :
    cmpi .ne (linR p) (broadcastInDim Cert.KernelIdeal.S300000 ![] Cert.KernelIdeal.Facts₀.bcast_S_S300000
      (constantI Cert.KernelIdeal.S_ 32 262144#32)) (ix1 n) = validR p (ix1 n) :=
  valid_eq_elt p n

/-- … and as an equation of vectors. -/
theorem valid_eq_fun [Cert.KernelIdeal.Facts] [Cert.ReferenceIdeal.Facts] (p : FVec Ideal Cert.ReferenceIdeal.S300000x5 .f32) :
    cmpi .ne (linR p) (broadcastInDim Cert.KernelIdeal.S300000 ![] Cert.KernelIdeal.Facts₀.bcast_S_S300000
      (constantI Cert.KernelIdeal.S_ 32 262144#32)) = validR p := by
  funext j
  obtain ⟨n, rfl⟩ : ∃ n : Fin 300000, j = ix1 n := ⟨j 0, eq_ix1 j⟩
  exact valid_eq p n

end Main

end Cert.Lin

end
-- ==== Proof.LinGlue.lean ====
/-
  The layout around the region, on the kernel's side, as pure terms.

  Before the region the host stacks the four batches' point arrays [300000, 5] into one array [4, 300000, 5], keeps the
  first three columns and exchanges the last two axes: the region's input `X` [4, 3, 300000], whose block b holds at
  (k, n) coordinate k of point n of batch b (`X_apply0` … `X_apply3`). After the region the host reshapes the result
  [4, 1, 300000] to [4, 300000], slices out batch I's row and flattens it: read at n, the result at (I, 0, n)
  (`row0_apply` … `row3_apply`). With the kernel's stored word equal to the reference's cell id on such a block
  (`lin_eq`), batch I's row is the reference's cell id of batch I's point array (`row0_eq_linR` … `row3_eq_linR`).
-/
import proofs.«111982_j16939351015723_2_alg».proof.Proof.LinSpec
import Idealize.ShloMosaic.Lib.StableHlo.Run

set_option maxRecDepth 16384

noncomputable section

namespace Cert.Lin

open Cert.KernelIdeal Cert.KernelIdeal.Gen Idealize.ShloMosaic Idealize.ShloMosaic.StableHlo Idealize.ShloMosaic.TcCoe Idealize.SL.Sem
open Idealize.ShloMosaic.ValueIdx

/-! ## The region's input array: the four batches' point arrays stacked, cut to three columns, transposed -/

/-- The region's input [4, 3, 300000] from the four batches' point arrays [300000, 5]: each viewed [1, 300000, 5],
    the four concatenated along the batch axis, the first three columns kept, the last two axes exchanged. -/
def X (p0 p1 p2 p3 : FVec Ideal S300000x5 .f32) : FVec Ideal S4x3x300000 .f32 :=
  transpose S4x3x300000 [0, 2, 1]
    (extractStridedSlice S4x300000x3 ![0, 0, 0]
      (concatenate S4x300000x5 0
        [⟨S1x300000x5, broadcastInDim S1x300000x5 ![1, 2] bcast_S300000x5_S1x300000x5_1_2 p0⟩,
         ⟨S1x300000x5, broadcastInDim S1x300000x5 ![1, 2] bcast_S300000x5_S1x300000x5_1_2 p1⟩,
         ⟨S1x300000x5, broadcastInDim S1x300000x5 ![1, 2] bcast_S300000x5_S1x300000x5_1_2 p2⟩,
         ⟨S1x300000x5, broadcastInDim S1x300000x5 ![1, 2] bcast_S300000x5_S1x300000x5_1_2 p3⟩]
        concatenates_S1x300000x5_S1x300000x5_S1x300000x5_S1x300000x5_S4x300000x5_d0)
      slices_S4x300000x5_S4x300000x3_0_0_0)
    transposes_S4x300000x3_S4x3x300000_0_2_1

/-- The seven host operations that build the region's input from the four point arrays, as the program lists them. -/
abbrev inOps : List (HloOp τ sig (Elt Ideal)) :=
  [ StableHlo.unary main_v13 main_v56 (broadcastInDim S1x300000x5 ![1, 2] bcast_S300000x5_S1x300000x5_1_2 : (⟨S300000x5, .f32⟩ : BufTy).Contents (Elt Ideal) → (⟨S1x300000x5, .f32⟩ : BufTy).Contents (Elt Ideal)),
    StableHlo.unary main_v27 main_v57 (broadcastInDim S1x300000x5 ![1, 2] bcast_S300000x5_S1x300000x5_1_2 : (⟨S300000x5, .f32⟩ : BufTy).Contents (Elt Ideal) → (⟨S1x300000x5, .f32⟩ : BufTy).Contents (Elt Ideal)),
    StableHlo.unary main_v41 main_v58 (broadcastInDim S1x300000x5 ![1, 2] bcast_S300000x5_S1x300000x5_1_2 : (⟨S300000x5, .f32⟩ : BufTy).Contents (Elt Ideal) → (⟨S1x300000x5, .f32⟩ : BufTy).Contents (Elt Ideal)),
    StableHlo.unary main_v55 main_v59 (broadcastInDim S1x300000x5 ![1, 2] bcast_S300000x5_S1x300000x5_1_2 : (⟨S300000x5, .f32⟩ : BufTy).Contents (Elt Ideal) → (⟨S1x300000x5, .f32⟩ : BufTy).Contents (Elt Ideal)),
    StableHlo.nary ![main_v56, main_v57, main_v58, main_v59] main_v60 (fun u => concatenate S4x300000x5 0 [⟨S1x300000x5, u 0⟩, ⟨S1x300000x5, u 1⟩, ⟨S1x300000x5, u 2⟩, ⟨S1x300000x5, u 3⟩] concatenates_S1x300000x5_S1x300000x5_S1x300000x5_S1x300000x5_S4x300000x5_d0),
    StableHlo.unary main_v60 main_v61 ((extractStridedSlice S4x300000x3 ![0, 0, 0] · slices_S4x300000x5_S4x300000x3_0_0_0) : (⟨S4x300000x5, .f32⟩ : BufTy).Contents (Elt Ideal) → (⟨S4x300000x3, .f32⟩ : BufTy).Contents (Elt Ideal)),
    StableHlo.unary main_v61 main_v62 ((transpose S4x3x300000 [0, 2, 1] · transposes_S4x300000x3_S4x3x300000_0_2_1) : (⟨S4x300000x3, .f32⟩ : BufTy).Contents (Elt Ideal) → (⟨S4x3x300000, .f32⟩ : BufTy).Contents (Elt Ideal)) ]

/-- After those seven operations, over any contents, the region's input buffer holds `X` of the four point arrays' buffers. -/
theorem X_read (W : Valuation τ sig (Elt Ideal)) :
    StableHlo.after inOps W (Proc.devRef .tc main_v62)
      = X (W (Proc.devRef .tc main_v13)) (W (Proc.devRef .tc main_v27)) (W (Proc.devRef .tc main_v41)) (W (Proc.devRef .tc main_v55)) := by
  after_results
  rfl

/-- A point array viewed [1, 300000, 5], read at (0, n, c). -/
theorem stack1_apply {α : Type} (p : S300000x5.Idx → α) (n : Fin 300000) (c : Fin 5) :
    broadcastInDim S1x300000x5 ![1, 2] bcast_S300000x5_S1x300000x5_1_2 p (ix3 (0 : Fin 1) n c) = p (ix2 n c) :=
  broadcastInDim_apply _ _ _ (ix3 (0 : Fin 1) n c) (ix2 n c) (fun a => match a with
    | ⟨0, _⟩ => rfl
    | ⟨1, _⟩ => rfl)

/-- The four stacked arrays, read at (b, n, c) for each of the four batches b. -/
theorem stack4_apply {α : Type} (q0 q1 q2 q3 : S1x300000x5.Idx → α) (n : Fin 300000) (c : Fin 5) :
    let cat := concatenate S4x300000x5 0 [⟨S1x300000x5, q0⟩, ⟨S1x300000x5, q1⟩, ⟨S1x300000x5, q2⟩, ⟨S1x300000x5, q3⟩]
      concatenates_S1x300000x5_S1x300000x5_S1x300000x5_S1x300000x5_S4x300000x5_d0
    cat (ix3 (0 : Fin 4) n c) = q0 (ix3 (0 : Fin 1) n c) ∧ cat (ix3 (1 : Fin 4) n c) = q1 (ix3 (0 : Fin 1) n c)
      ∧ cat (ix3 (2 : Fin 4) n c) = q2 (ix3 (0 : Fin 1) n c) ∧ cat (ix3 (3 : Fin 4) n c) = q3 (ix3 (0 : Fin 1) n c) := by
  intro cat
  have hi : ∀ (b : Fin 4) (b' : Fin S1x300000x5.rank), b'.cast (rfl : S1x300000x5.rank = S4x300000x5.rank) ≠ (0 : Fin S4x300000x5.rank) →
      ((ix3 (0 : Fin 1) n c : S1x300000x5.Idx) b').val = ((ix3 b n c : S4x300000x5.Idx) (b'.cast rfl)).val := fun b b' => match b' with
    | ⟨0, _⟩ => fun h => absurd rfl h
    | ⟨1, _⟩ => fun _ => rfl
    | ⟨2, _⟩ => fun _ => rfl
  refine ⟨?_, ?_, ?_, ?_⟩
  · exact concatenate_apply_piece 0 _ _ (ix3 (0 : Fin 4) n c) 0 (by show (0 : Nat) < 4; omega) S1x300000x5 q0 rfl rfl 0 rfl
      (ix3 (0 : Fin 1) n c) (hi 0) rfl
  · exact concatenate_apply_piece 0 _ _ (ix3 (1 : Fin 4) n c) 1 (by show (1 : Nat) < 4; omega) S1x300000x5 q1 rfl rfl 1 rfl
      (ix3 (0 : Fin 1) n c) (hi 1) rfl
  · exact concatenate_apply_piece 0 _ _ (ix3 (2 : Fin 4) n c) 2 (by show (2 : Nat) < 4; omega) S1x300000x5 q2 rfl rfl 2 rfl
      (ix3 (0 : Fin 1) n c) (hi 2) rfl
  · exact concatenate_apply_piece 0 _ _ (ix3 (3 : Fin 4) n c) 3 (by show (3 : Nat) < 4; omega) S1x300000x5 q3 rfl rfl 3 rfl
      (ix3 (0 : Fin 1) n c) (hi 3) rfl

/-- The region's input at (b, k, n): the stacked arrays at (b, n, k). -/
theorem X_apply_cat (p0 p1 p2 p3 : FVec Ideal S300000x5 .f32) (b : Fin 4) (k : Fin 3) (n : Fin 300000) :
    X p0 p1 p2 p3 (ix3 b k n)
      = concatenate S4x300000x5 0
        [⟨S1x300000x5, broadcastInDim S1x300000x5 ![1, 2] bcast_S300000x5_S1x300000x5_1_2 p0⟩,
         ⟨S1x300000x5, broadcastInDim S1x300000x5 ![1, 2] bcast_S300000x5_S1x300000x5_1_2 p1⟩,
         ⟨S1x300000x5, broadcastInDim S1x300000x5 ![1, 2] bcast_S300000x5_S1x300000x5_1_2 p2⟩,
         ⟨S1x300000x5, broadcastInDim S1x300000x5 ![1, 2] bcast_S300000x5_S1x300000x5_1_2 p3⟩]
        concatenates_S1x300000x5_S1x300000x5_S1x300000x5_S1x300000x5_S4x300000x5_d0 (ix3 b n (Fin.castLE (by decide) k)) := by
  unfold X
  refine (transpose_apply _ _ _ (ix3 b k n) (ix3 b n k) (fun a => match a with
    | ⟨0, _⟩ => rfl
    | ⟨1, _⟩ => rfl
    | ⟨2, _⟩ => rfl)).trans ?_
  exact extractStridedSlice_apply _ _ _ (ix3 b n k) (ix3 b n (Fin.castLE (by decide) k)) (fun a => match a with
    | ⟨0, _⟩ => by show b.val = 0 + b.val; omega
    | ⟨1, _⟩ => by show n.val = 0 + n.val; omega
    | ⟨2, _⟩ => by show k.val = 0 + k.val; omega)

/-- THE REGION'S INPUT AT AN INDEX: batch b's block holds, at (k, n), coordinate k of point n of batch b's array. -/
theorem X_apply0 (p0 p1 p2 p3 : FVec Ideal S300000x5 .f32) (k : Fin 3) (n : Fin 300000) :
    X p0 p1 p2 p3 (ix3 (0 : Fin 4) k n) = p0 (ix2 n (Fin.castLE (by decide) k)) := by
  rw [X_apply_cat, (stack4_apply _ _ _ _ n _).1, stack1_apply]
theorem X_apply1 (p0 p1 p2 p3 : FVec Ideal S300000x5 .f32) (k : Fin 3) (n : Fin 300000) :
    X p0 p1 p2 p3 (ix3 (1 : Fin 4) k n) = p1 (ix2 n (Fin.castLE (by decide) k)) := by
  rw [X_apply_cat, (stack4_apply _ _ _ _ n _).2.1, stack1_apply]
theorem X_apply2 (p0 p1 p2 p3 : FVec Ideal S300000x5 .f32) (k : Fin 3) (n : Fin 300000) :
    X p0 p1 p2 p3 (ix3 (2 : Fin 4) k n) = p2 (ix2 n (Fin.castLE (by decide) k)) := by
  rw [X_apply_cat, (stack4_apply _ _ _ _ n _).2.2.1, stack1_apply]
theorem X_apply3 (p0 p1 p2 p3 : FVec Ideal S300000x5 .f32) (k : Fin 3) (n : Fin 300000) :
    X p0 p1 p2 p3 (ix3 (3 : Fin 4) k n) = p3 (ix2 n (Fin.castLE (by decide) k)) := by
  rw [X_apply_cat, (stack4_apply _ _ _ _ n _).2.2.2, stack1_apply]

/-! ## The region's result array, row by row

The host reshapes the region's [4, 1, 300000] result to [4, 300000], slices out batch I's row [1, 300000] and reshapes
it to [300000]. Read at n, that is the result at (I, 0, n). The row is the composite of the three operations'
functions: the reshape to [4, 300000], the slice at row I, the reshape to [300000]. -/

/-- Batch 0's row of the region's result, read at n. -/
theorem row0_apply (Y : IVec S4x1x300000 32) (n : Fin 300000) :
    (fun i => shapeCast (main_v66 : Ref sig .tc).ty.shape
        (extractStridedSlice S1x300000 ![0, 0]
          (fun i => shapeCast (main_v64 : Ref sig .tc).ty.shape Y shapeCasts_S4x1x300000_S4x300000 i)
          slices_S4x300000_S1x300000_0_0)
        shapeCasts_S1x300000_S300000 i) (ix1 n) = Y (ix3 (0 : Fin 4) (0 : Fin 1) n) := by
  show shapeCast S300000 (extractStridedSlice S1x300000 ![0, 0] (fun i => shapeCast S4x300000 Y shapeCasts_S4x1x300000_S4x300000 i)
    slices_S4x300000_S1x300000_0_0) shapeCasts_S1x300000_S300000 (ix1 n) = _
  refine (shapeCast_apply _ _ (ix1 n) (ix2 (0 : Fin 1) n) ?_).trans ?_
  · rw [Shape.rowMajor_val_two, Shape.rowMajor_val_one]
    show 0 * 300000 + n.val = n.val
    omega
  refine (extractStridedSlice_apply _ _ _ (ix2 (0 : Fin 1) n) (ix2 (0 : Fin 4) n) (fun a => match a with
    | ⟨0, _⟩ => by show 0 = 0 + 0; omega
    | ⟨1, _⟩ => by show n.val = 0 + n.val; omega)).trans ?_
  refine shapeCast_apply Y _ (ix2 (0 : Fin 4) n) (ix3 (0 : Fin 4) (0 : Fin 1) n) ?_
  rw [Shape.rowMajor_val_three, Shape.rowMajor_val_two]
  show (0 * 1 + 0) * 300000 + n.val = 0 * 300000 + n.val
  omega

/-- … and as a function of n. -/
theorem row0_fun (Y : IVec S4x1x300000 32) :
    (fun i => shapeCast (main_v66 : Ref sig .tc).ty.shape
        (extractStridedSlice S1x300000 ![0, 0]
          (fun i => shapeCast (main_v64 : Ref sig .tc).ty.shape Y shapeCasts_S4x1x300000_S4x300000 i)
          slices_S4x300000_S1x300000_0_0)
        shapeCasts_S1x300000_S300000 i) = fun j => Y (ix3 (0 : Fin 4) (0 : Fin 1) (j 0)) := by
  funext j
  obtain ⟨n, rfl⟩ : ∃ n : Fin 300000, j = ix1 n := ⟨j 0, eq_ix1 j⟩
  exact row0_apply Y n

/-- Batch 1's row of the region's result, read at n. -/
theorem row1_apply (Y : IVec S4x1x300000 32) (n : Fin 300000) :
    (fun i => shapeCast (main_v203 : Ref sig .tc).ty.shape
        (extractStridedSlice S1x300000 ![1, 0]
          (fun i => shapeCast (main_v64 : Ref sig .tc).ty.shape Y shapeCasts_S4x1x300000_S4x300000 i)
          slices_S4x300000_S1x300000_1_0)
        shapeCasts_S1x300000_S300000 i) (ix1 n) = Y (ix3 (1 : Fin 4) (0 : Fin 1) n) := by
  show shapeCast S300000 (extractStridedSlice S1x300000 ![1, 0] (fun i => shapeCast S4x300000 Y shapeCasts_S4x1x300000_S4x300000 i)
    slices_S4x300000_S1x300000_1_0) shapeCasts_S1x300000_S300000 (ix1 n) = _
  refine (shapeCast_apply _ _ (ix1 n) (ix2 (0 : Fin 1) n) ?_).trans ?_
  · rw [Shape.rowMajor_val_two, Shape.rowMajor_val_one]
    show 0 * 300000 + n.val = n.val
    omega
  refine (extractStridedSlice_apply _ _ _ (ix2 (0 : Fin 1) n) (ix2 (1 : Fin 4) n) (fun a => match a with
    | ⟨0, _⟩ => by show 1 = 1 + 0; omega
    | ⟨1, _⟩ => by show n.val = 0 + n.val; omega)).trans ?_
  refine shapeCast_apply Y _ (ix2 (1 : Fin 4) n) (ix3 (1 : Fin 4) (0 : Fin 1) n) ?_
  rw [Shape.rowMajor_val_three, Shape.rowMajor_val_two]
  show (1 * 1 + 0) * 300000 + n.val = 1 * 300000 + n.val
  omega

/-- … and as a function of n. -/
theorem row1_fun (Y : IVec S4x1x300000 32) :
    (fun i => shapeCast (main_v203 : Ref sig .tc).ty.shape
        (extractStridedSlice S1x300000 ![1, 0]
          (fun i => shapeCast (main_v64 : Ref sig .tc).ty.shape Y shapeCasts_S4x1x300000_S4x300000 i)
          slices_S4x300000_S1x300000_1_0)
        shapeCasts_S1x300000_S300000 i) = fun j => Y (ix3 (1 : Fin 4) (0 : Fin 1) (j 0)) := by
  funext j
  obtain ⟨n, rfl⟩ : ∃ n : Fin 300000, j = ix1 n := ⟨j 0, eq_ix1 j⟩
  exact row1_apply Y n

/-- Batch 2's row of the region's result, read at n. -/
theorem row2_apply (Y : IVec S4x1x300000 32) (n : Fin 300000) :
    (fun i => shapeCast (main_v340 : Ref sig .tc).ty.shape
        (extractStridedSlice S1x300000 ![2, 0]
          (fun i => shapeCast (main_v64 : Ref sig .tc).ty.shape Y shapeCasts_S4x1x300000_S4x300000 i)
          slices_S4x300000_S1x300000_2_0)
        shapeCasts_S1x300000_S300000 i) (ix1 n) = Y (ix3 (2 : Fin 4) (0 : Fin 1) n) := by
  show shapeCast S300000 (extractStridedSlice S1x300000 ![2, 0] (fun i => shapeCast S4x300000 Y shapeCasts_S4x1x300000_S4x300000 i)
    slices_S4x300000_S1x300000_2_0) shapeCasts_S1x300000_S300000 (ix1 n) = _
  refine (shapeCast_apply _ _ (ix1 n) (ix2 (0 : Fin 1) n) ?_).trans ?_
  · rw [Shape.rowMajor_val_two, Shape.rowMajor_val_one]
    show 0 * 300000 + n.val = n.val
    omega
  refine (extractStridedSlice_apply _ _ _ (ix2 (0 : Fin 1) n) (ix2 (2 : Fin 4) n) (fun a => match a with
    | ⟨0, _⟩ => by show 2 = 2 + 0; omega
    | ⟨1, _⟩ => by show n.val = 0 + n.val; omega)).trans ?_
  refine shapeCast_apply Y _ (ix2 (2 : Fin 4) n) (ix3 (2 : Fin 4) (0 : Fin 1) n) ?_
  rw [Shape.rowMajor_val_three, Shape.rowMajor_val_two]
  show (2 * 1 + 0) * 300000 + n.val = 2 * 300000 + n.val
  omega

/-- … and as a function of n. -/
theorem row2_fun (Y : IVec S4x1x300000 32) :
    (fun i => shapeCast (main_v340 : Ref sig .tc).ty.shape
        (extractStridedSlice S1x300000 ![2, 0]
          (fun i => shapeCast (main_v64 : Ref sig .tc).ty.shape Y shapeCasts_S4x1x300000_S4x300000 i)
          slices_S4x300000_S1x300000_2_0)
        shapeCasts_S1x300000_S300000 i) = fun j => Y (ix3 (2 : Fin 4) (0 : Fin 1) (j 0)) := by
  funext j
  obtain ⟨n, rfl⟩ : ∃ n : Fin 300000, j = ix1 n := ⟨j 0, eq_ix1 j⟩
  exact row2_apply Y n

/-- Batch 3's row of the region's result, read at n. -/
theorem row3_apply (Y : IVec S4x1x300000 32) (n : Fin 300000) :
    (fun i => shapeCast (main_v477 : Ref sig .tc).ty.shape
        (extractStridedSlice S1x300000 ![3, 0]
          (fun i => shapeCast (main_v64 : Ref sig .tc).ty.shape Y shapeCasts_S4x1x300000_S4x300000 i)
          slices_S4x300000_S1x300000_3_0)
        shapeCasts_S1x300000_S300000 i) (ix1 n) = Y (ix3 (3 : Fin 4) (0 : Fin 1) n) := by
  show shapeCast S300000 (extractStridedSlice S1x300000 ![3, 0] (fun i => shapeCast S4x300000 Y shapeCasts_S4x1x300000_S4x300000 i)
    slices_S4x300000_S1x300000_3_0) shapeCasts_S1x300000_S300000 (ix1 n) = _
  refine (shapeCast_apply _ _ (ix1 n) (ix2 (0 : Fin 1) n) ?_).trans ?_
  · rw [Shape.rowMajor_val_two, Shape.rowMajor_val_one]
    show 0 * 300000 + n.val = n.val
    omega
  refine (extractStridedSlice_apply _ _ _ (ix2 (0 : Fin 1) n) (ix2 (3 : Fin 4) n) (fun a => match a with
    | ⟨0, _⟩ => by show 3 = 3 + 0; omega
    | ⟨1, _⟩ => by show n.val = 0 + n.val; omega)).trans ?_
  refine shapeCast_apply Y _ (ix2 (3 : Fin 4) n) (ix3 (3 : Fin 4) (0 : Fin 1) n) ?_
  rw [Shape.rowMajor_val_three, Shape.rowMajor_val_two]
  show (3 * 1 + 0) * 300000 + n.val = 3 * 300000 + n.val
  omega

/-- … and as a function of n. -/
theorem row3_fun (Y : IVec S4x1x300000 32) :
    (fun i => shapeCast (main_v477 : Ref sig .tc).ty.shape
        (extractStridedSlice S1x300000 ![3, 0]
          (fun i => shapeCast (main_v64 : Ref sig .tc).ty.shape Y shapeCasts_S4x1x300000_S4x300000 i)
          slices_S4x300000_S1x300000_3_0)
        shapeCasts_S1x300000_S300000 i) = fun j => Y (ix3 (3 : Fin 4) (0 : Fin 1) (j 0)) := by
  funext j
  obtain ⟨n, rfl⟩ : ∃ n : Fin 300000, j = ix1 n := ⟨j 0, eq_ix1 j⟩
  exact row3_apply Y n

/-! ## The rows of the region's result are the reference's cell ids -/

/-- Batch 0: the row of the region's result, the region's result being the kernel's stored word of each batch's
    block of `X`, is the reference's cell id of batch 0's point array. -/
theorem row0_eq_linR [Cert.ReferenceIdeal.Facts] (p0 p1 p2 p3 : FVec Ideal S300000x5 .f32) :
    (fun Y : IVec S4x1x300000 32 => (fun i => shapeCast (main_v66 : Ref sig .tc).ty.shape
        (extractStridedSlice S1x300000 ![0, 0]
          (fun i => shapeCast (main_v64 : Ref sig .tc).ty.shape Y shapeCasts_S4x1x300000_S4x300000 i)
          slices_S4x300000_S1x300000_0_0)
        shapeCasts_S1x300000_S300000 i))
      (fun j => linK (fun y => X p0 p1 p2 p3 (ix3 (j 0) (y 1) (y 2))) (ix3 (0 : Fin 1) (0 : Fin 1) (j 2)))
      = linR p0 := by
  funext j
  obtain ⟨n, rfl⟩ : ∃ n : Fin 300000, j = ix1 n := ⟨j 0, eq_ix1 j⟩
  refine (row0_apply _ n).trans ?_
  exact lin_eq p0 (fun y => X p0 p1 p2 p3 (ix3 (0 : Fin 4) (y 1) (y 2))) (fun k n => X_apply0 p0 p1 p2 p3 k n) n

/-- Batch 1: the row of the region's result, the region's result being the kernel's stored word of each batch's
    block of `X`, is the reference's cell id of batch 1's point array. -/
theorem row1_eq_linR [Cert.ReferenceIdeal.Facts] (p0 p1 p2 p3 : FVec Ideal S300000x5 .f32) :
    (fun Y : IVec S4x1x300000 32 => (fun i => shapeCast (main_v203 : Ref sig .tc).ty.shape
        (extractStridedSlice S1x300000 ![1, 0]
          (fun i => shapeCast (main_v64 : Ref sig .tc).ty.shape Y shapeCasts_S4x1x300000_S4x300000 i)
          slices_S4x300000_S1x300000_1_0)
        shapeCasts_S1x300000_S300000 i))
      (fun j => linK (fun y => X p0 p1 p2 p3 (ix3 (j 0) (y 1) (y 2))) (ix3 (0 : Fin 1) (0 : Fin 1) (j 2)))
      = linR p1 := by
  funext j
  obtain ⟨n, rfl⟩ : ∃ n : Fin 300000, j = ix1 n := ⟨j 0, eq_ix1 j⟩
  refine (row1_apply _ n).trans ?_
  exact lin_eq p1 (fun y => X p0 p1 p2 p3 (ix3 (1 : Fin 4) (y 1) (y 2))) (fun k n => X_apply1 p0 p1 p2 p3 k n) n

/-- Batch 2: the row of the region's result, the region's result being the kernel's stored word of each batch's
    block of `X`, is the reference's cell id of batch 2's point array. -/
theorem row2_eq_linR [Cert.ReferenceIdeal.Facts] (p0 p1 p2 p3 : FVec Ideal S300000x5 .f32) :
    (fun Y : IVec S4x1x300000 32 => (fun i => shapeCast (main_v340 : Ref sig .tc).ty.shape
        (extractStridedSlice S1x300000 ![2, 0]
          (fun i => shapeCast (main_v64 : Ref sig .tc).ty.shape Y shapeCasts_S4x1x300000_S4x300000 i)
          slices_S4x300000_S1x300000_2_0)
        shapeCasts_S1x300000_S300000 i))
      (fun j => linK (fun y => X p0 p1 p2 p3 (ix3 (j 0) (y 1) (y 2))) (ix3 (0 : Fin 1) (0 : Fin 1) (j 2)))
      = linR p2 := by
  funext j
  obtain ⟨n, rfl⟩ : ∃ n : Fin 300000, j = ix1 n := ⟨j 0, eq_ix1 j⟩
  refine (row2_apply _ n).trans ?_
  exact lin_eq p2 (fun y => X p0 p1 p2 p3 (ix3 (2 : Fin 4) (y 1) (y 2))) (fun k n => X_apply2 p0 p1 p2 p3 k n) n

/-- Batch 3: the row of the region's result, the region's result being the kernel's stored word of each batch's
    block of `X`, is the reference's cell id of batch 3's point array. -/
theorem row3_eq_linR [Cert.ReferenceIdeal.Facts] (p0 p1 p2 p3 : FVec Ideal S300000x5 .f32) :
    (fun Y : IVec S4x1x300000 32 => (fun i => shapeCast (main_v477 : Ref sig .tc).ty.shape
        (extractStridedSlice S1x300000 ![3, 0]
          (fun i => shapeCast (main_v64 : Ref sig .tc).ty.shape Y shapeCasts_S4x1x300000_S4x300000 i)
          slices_S4x300000_S1x300000_3_0)
        shapeCasts_S1x300000_S300000 i))
      (fun j => linK (fun y => X p0 p1 p2 p3 (ix3 (j 0) (y 1) (y 2))) (ix3 (0 : Fin 1) (0 : Fin 1) (j 2)))
      = linR p3 := by
  funext j
  obtain ⟨n, rfl⟩ : ∃ n : Fin 300000, j = ix1 n := ⟨j 0, eq_ix1 j⟩
  refine (row3_apply _ n).trans ?_
  exact lin_eq p3 (fun y => X p0 p1 p2 p3 (ix3 (3 : Fin 4) (y 1) (y 2))) (fun k n => X_apply3 p0 p1 p2 p3 k n) n

end Cert.Lin

end
-- ==== Proof.LinRowK.lean ====
/-
  The kernel side's rows, closed: batch I's row of the region's result array — the body's result on block I of the
  input array as the region finds it — is the reference's cell id of batch I's point array as the region finds it.
-/
import proofs.«111982_j16939351015723_2_alg».proof.Proof.LinGlue
import proofs.«111982_j16939351015723_2_alg».proof.Proof.KFI_Final

set_option maxRecDepth 16384

noncomputable section

namespace Cert.Lin

open Cert.KernelIdeal Cert.KernelIdeal.Gen Cert.KernelIdeal.Hand Idealize.ShloMosaic Idealize.ShloMosaic.StableHlo Idealize.ShloMosaic.TcCoe Idealize.SL.Sem
open Idealize.ShloMosaic.ValueIdx

variable (m : (ℓ : Loc nD τ sig) → Buf (Elt Ideal) ℓ)

/-- The host operations before the region end with the seven that build the region's input. -/
theorem hostOps0_split : (hostOps0 (F := Ideal)) = (hostOps0 (F := Ideal)).take 92 ++ inOps :=
  (List.take_append_drop 92 _).symm

/-- The seven operations that build the region's input leave the four point arrays as they were. -/
theorem inOps_keep (W : Valuation τ sig (Elt Ideal)) :
    StableHlo.after inOps W (Proc.devRef .tc main_v13) = W (Proc.devRef .tc main_v13)
    ∧ StableHlo.after inOps W (Proc.devRef .tc main_v27) = W (Proc.devRef .tc main_v27)
    ∧ StableHlo.after inOps W (Proc.devRef .tc main_v41) = W (Proc.devRef .tc main_v41)
    ∧ StableHlo.after inOps W (Proc.devRef .tc main_v55) = W (Proc.devRef .tc main_v55) := by
  refine ⟨?_, ?_, ?_, ?_⟩ <;> after_results

/-- THE REGION'S INPUT as the region finds it: `X` of the four point arrays as the region finds them. -/
theorem V_main_v62 (c : Dev nD) :
    V m c main_v62 = X (V m c main_v13) (V m c main_v27) (V m c main_v41) (V m c main_v55) := by
  have hs : ∀ b : Ref sig .tc, V m c b = StableHlo.after inOps (StableHlo.after ((hostOps0 (F := Ideal)).take 92) (fun b => m (c, b))) (Proc.devRef .tc b) := by
    intro b
    show StableHlo.after (List.flatten [hostOps0]) (fun b => m (c, b)) (Proc.devRef .tc b) = _
    rw [List.flatten_cons, List.flatten_nil, List.append_nil, ← StableHlo.after_append]
    exact congrArg (fun l => StableHlo.after l (fun b => m (c, b)) (Proc.devRef .tc b)) hostOps0_split
  rw [hs main_v62, hs main_v13, hs main_v27, hs main_v41, hs main_v55, X_read,
    (inOps_keep _).1, (inOps_keep _).2.1, (inOps_keep _).2.2.1, (inOps_keep _).2.2.2]

/-- THE REGION'S RESULT as one function of the four point arrays: at (b, 0, n) the kernel's stored word on block b of
    `X` of the point arrays, read at (0, 0, n). -/
theorem G1_eq (c : Dev nD) :
    G1 m c = fun j => linK (fun y => X (V m c main_v13) (V m c main_v27) (V m c main_v41) (V m c main_v55) (ix3 (j 0) (y 1) (y 2)))
      (ix3 (0 : Fin 1) (0 : Fin 1) (j 2)) := by
  funext j
  unfold G1
  rw [out0_1_eq, V_main_v62]
  rfl

/-- Batch 0's row of the region's result array is the reference's cell id of batch 0's point array as the region finds it. -/
theorem krow0 [Cert.ReferenceIdeal.Facts] (c : Dev nD) :
    (fun i => shapeCast (main_v66 : Ref sig .tc).ty.shape
        (extractStridedSlice S1x300000 ![0, 0]
          (fun i => shapeCast (main_v64 : Ref sig .tc).ty.shape (G1 m c) shapeCasts_S4x1x300000_S4x300000 i)
          slices_S4x300000_S1x300000_0_0)
        shapeCasts_S1x300000_S300000 i) = linR (V m c main_v13) := by
  rw [G1_eq]
  exact row0_eq_linR (V m c main_v13) (V m c main_v27) (V m c main_v41) (V m c main_v55)

/-- Batch 1's row of the region's result array is the reference's cell id of batch 1's point array as the region finds it. -/
theorem krow1 [Cert.ReferenceIdeal.Facts] (c : Dev nD) :
    (fun i => shapeCast (main_v203 : Ref sig .tc).ty.shape
        (extractStridedSlice S1x300000 ![1, 0]
          (fun i => shapeCast (main_v64 : Ref sig .tc).ty.shape (G1 m c) shapeCasts_S4x1x300000_S4x300000 i)
          slices_S4x300000_S1x300000_1_0)
        shapeCasts_S1x300000_S300000 i) = linR (V m c main_v27) := by
  rw [G1_eq]
  exact row1_eq_linR (V m c main_v13) (V m c main_v27) (V m c main_v41) (V m c main_v55)

/-- Batch 2's row of the region's result array is the reference's cell id of batch 2's point array as the region finds it. -/
theorem krow2 [Cert.ReferenceIdeal.Facts] (c : Dev nD) :
    (fun i => shapeCast (main_v340 : Ref sig .tc).ty.shape
        (extractStridedSlice S1x300000 ![2, 0]
          (fun i => shapeCast (main_v64 : Ref sig .tc).ty.shape (G1 m c) shapeCasts_S4x1x300000_S4x300000 i)
          slices_S4x300000_S1x300000_2_0)
        shapeCasts_S1x300000_S300000 i) = linR (V m c main_v41) := by
  rw [G1_eq]
  exact row2_eq_linR (V m c main_v13) (V m c main_v27) (V m c main_v41) (V m c main_v55)

/-- Batch 3's row of the region's result array is the reference's cell id of batch 3's point array as the region finds it. -/
theorem krow3 [Cert.ReferenceIdeal.Facts] (c : Dev nD) :
    (fun i => shapeCast (main_v477 : Ref sig .tc).ty.shape
        (extractStridedSlice S1x300000 ![3, 0]
          (fun i => shapeCast (main_v64 : Ref sig .tc).ty.shape (G1 m c) shapeCasts_S4x1x300000_S4x300000 i)
          slices_S4x300000_S1x300000_3_0)
        shapeCasts_S1x300000_S300000 i) = linR (V m c main_v55) := by
  rw [G1_eq]
  exact row3_eq_linR (V m c main_v13) (V m c main_v27) (V m c main_v41) (V m c main_v55)

end Cert.Lin

end
-- ==== Proof.LinReadR.lean ====
/-
  The reference's cell ids and validity masks, read off its operation list: after the thirty-six operations that
  compute batch I's cell ids, the buffer of the cell ids holds `linR` of the batch's point array and the buffer of
  the mask holds `validR` of it, the three dense constants being where the program's first three operations put them.
  The last operation (the select of the outlined `_where`) is stated over an arbitrary valuation: its result is the
  select of its three operands' contents; composed with the reading of the thirty-five operations before it, it gives
  the cell ids.
-/
import proofs.«111982_j16939351015723_2_alg».proof.Proof.RefOps
import proofs.«111982_j16939351015723_2_alg».proof.Proof.LinSpec

set_option maxRecDepth 16384
set_option maxHeartbeats 4000000

noncomputable section

namespace Cert.Lin

open Cert.ReferenceIdeal Cert.ReferenceIdeal.Gen Cert.ReferenceIdeal.Hand Idealize.ShloMosaic Idealize.ShloMosaic.StableHlo Idealize.SL.Sem
open Idealize.ShloMosaic.ValueIdx

/-- A select of equal operands. -/
theorem select_congr {s : Shape} {α : Type} {c c' : IVec s 1} {a a' b b' : s.Idx → α} (hc : c = c') (ha : a = a')
    (hb : b = b') : select c a b = select c' a' b' := by subst hc ha hb; rfl

/-! ## The three dense constants -/

theorem hd_cst (W : Valuation τ sig (Elt Ideal)) :
    StableHlo.after (hdOps (F := Ideal)) W (Proc.devRef .tc main_cst)
      = fun i => FloatOps.ofBits (F := Ideal) .f32 (lit0 (S3.rowMajor i)) := by
  after_results_simp
  rfl
theorem hd_cst_0 (W : Valuation τ sig (Elt Ideal)) :
    StableHlo.after (hdOps (F := Ideal)) W (Proc.devRef .tc main_cst_0)
      = fun i => FloatOps.ofBits (F := Ideal) .f32 (lit1 (S3.rowMajor i)) := by
  after_results_simp
  rfl
theorem hd_c (W : Valuation τ sig (Elt Ideal)) :
    StableHlo.after (hdOps (F := Ideal)) W (Proc.devRef .tc main_c) = fun i => lit2 (S3.rowMajor i) := by
  after_results_simp
  rfl

/-! ## Batch 0 -/

/-- The select that ends batch 0's cell ids, over any contents: the three operands' buffers selected. -/
theorem where0 (F : Valuation τ sig (Elt Ideal)) :
    (StableHlo.TRef.ternary (.of main_v29 : StableHlo.TRef sig ⟨S300000, .i1⟩) (.of main_v41 : StableHlo.TRef sig ⟨S300000, .i32⟩) (.of main_call0_v1 : StableHlo.TRef sig ⟨S300000, .i32⟩) (.of main_v42 : StableHlo.TRef sig ⟨S300000, .i32⟩) select : HloOp τ sig (Elt Ideal)).result F (Proc.devRef .tc main_v42)
      = select (F (Proc.devRef .tc main_v29)) (F (Proc.devRef .tc main_v41)) (F (Proc.devRef .tc main_call0_v1)) := by
  rw [StableHlo.ternary_result]
  simp only [TRef.toBuf, TRef.ofBuf, cast_eq]

/-- After batch 0's thirty-six operations the mask's buffer holds the reference's mask of the batch's point array. -/
theorem readValid0 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps0 (F := Ideal)) W (Proc.devRef .tc main_v29) = validR (W (Proc.devRef .tc main_v13)) := by
  after_results_simp
  rw [hc, hc0, hc2]
  rfl

/-- After batch 0's thirty-six operations the cell ids' buffer holds the reference's cell ids of the batch's point array. -/
theorem readLin0 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps0 (F := Ideal)) W (Proc.devRef .tc main_v42) = linR (W (Proc.devRef .tc main_v13)) := by
  simp only [after_cons, after_nil]
  rw [where0]
  refine (select_congr ?_ ?_ ?_).trans
    (rfl : select (validR (W (Proc.devRef .tc main_v13))) (rawR (W (Proc.devRef .tc main_v13)))
      (broadcastInDim S300000 ![] bcast_S_S300000 (constantI S_ 32 262144#32)) = linR (W (Proc.devRef .tc main_v13)))
  · after_results_simp
    rw [hc, hc0, hc2]
    rfl
  · after_results_simp
    rw [hc, hc0]
    rfl
  · after_results_simp
    simp only [TRef.toBuf, TRef.ofBuf, cast_eq]
    rfl

/-! ## Batch 1 -/

/-- The select that ends batch 1's cell ids, over any contents: the three operands' buffers selected. -/
theorem where1 (F : Valuation τ sig (Elt Ideal)) :
    (StableHlo.TRef.ternary (.of main_v205 : StableHlo.TRef sig ⟨S300000, .i1⟩) (.of main_v217 : StableHlo.TRef sig ⟨S300000, .i32⟩) (.of main_call20_v1 : StableHlo.TRef sig ⟨S300000, .i32⟩) (.of main_v218 : StableHlo.TRef sig ⟨S300000, .i32⟩) select : HloOp τ sig (Elt Ideal)).result F (Proc.devRef .tc main_v218)
      = select (F (Proc.devRef .tc main_v205)) (F (Proc.devRef .tc main_v217)) (F (Proc.devRef .tc main_call20_v1)) := by
  rw [StableHlo.ternary_result]
  simp only [TRef.toBuf, TRef.ofBuf, cast_eq]

/-- After batch 1's thirty-six operations the mask's buffer holds the reference's mask of the batch's point array. -/
theorem readValid1 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps1 (F := Ideal)) W (Proc.devRef .tc main_v205) = validR (W (Proc.devRef .tc main_v189)) := by
  after_results_simp
  rw [hc, hc0, hc2]
  rfl

/-- After batch 1's thirty-six operations the cell ids' buffer holds the reference's cell ids of the batch's point array. -/
theorem readLin1 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps1 (F := Ideal)) W (Proc.devRef .tc main_v218) = linR (W (Proc.devRef .tc main_v189)) := by
  simp only [after_cons, after_nil]
  rw [where1]
  refine (select_congr ?_ ?_ ?_).trans
    (rfl : select (validR (W (Proc.devRef .tc main_v189))) (rawR (W (Proc.devRef .tc main_v189)))
      (broadcastInDim S300000 ![] bcast_S_S300000 (constantI S_ 32 262144#32)) = linR (W (Proc.devRef .tc main_v189)))
  · after_results_simp
    rw [hc, hc0, hc2]
    rfl
  · after_results_simp
    rw [hc, hc0]
    rfl
  · after_results_simp
    simp only [TRef.toBuf, TRef.ofBuf, cast_eq]
    rfl

/-! ## Batch 2 -/

/-- The select that ends batch 2's cell ids, over any contents: the three operands' buffers selected. -/
theorem where2 (F : Valuation τ sig (Elt Ideal)) :
    (StableHlo.TRef.ternary (.of main_v381 : StableHlo.TRef sig ⟨S300000, .i1⟩) (.of main_v393 : StableHlo.TRef sig ⟨S300000, .i32⟩) (.of main_call40_v1 : StableHlo.TRef sig ⟨S300000, .i32⟩) (.of main_v394 : StableHlo.TRef sig ⟨S300000, .i32⟩) select : HloOp τ sig (Elt Ideal)).result F (Proc.devRef .tc main_v394)
      = select (F (Proc.devRef .tc main_v381)) (F (Proc.devRef .tc main_v393)) (F (Proc.devRef .tc main_call40_v1)) := by
  rw [StableHlo.ternary_result]
  simp only [TRef.toBuf, TRef.ofBuf, cast_eq]

/-- After batch 2's thirty-six operations the mask's buffer holds the reference's mask of the batch's point array. -/
theorem readValid2 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps2 (F := Ideal)) W (Proc.devRef .tc main_v381) = validR (W (Proc.devRef .tc main_v365)) := by
  after_results_simp
  rw [hc, hc0, hc2]
  rfl

/-- After batch 2's thirty-six operations the cell ids' buffer holds the reference's cell ids of the batch's point array. -/
theorem readLin2 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps2 (F := Ideal)) W (Proc.devRef .tc main_v394) = linR (W (Proc.devRef .tc main_v365)) := by
  simp only [after_cons, after_nil]
  rw [where2]
  refine (select_congr ?_ ?_ ?_).trans
    (rfl : select (validR (W (Proc.devRef .tc main_v365))) (rawR (W (Proc.devRef .tc main_v365)))
      (broadcastInDim S300000 ![] bcast_S_S300000 (constantI S_ 32 262144#32)) = linR (W (Proc.devRef .tc main_v365)))
  · after_results_simp
    rw [hc, hc0, hc2]
    rfl
  · after_results_simp
    rw [hc, hc0]
    rfl
  · after_results_simp
    simp only [TRef.toBuf, TRef.ofBuf, cast_eq]
    rfl

/-! ## Batch 3 -/

/-- The select that ends batch 3's cell ids, over any contents: the three operands' buffers selected. -/
theorem where3 (F : Valuation τ sig (Elt Ideal)) :
    (StableHlo.TRef.ternary (.of main_v557 : StableHlo.TRef sig ⟨S300000, .i1⟩) (.of main_v569 : StableHlo.TRef sig ⟨S300000, .i32⟩) (.of main_call60_v1 : StableHlo.TRef sig ⟨S300000, .i32⟩) (.of main_v570 : StableHlo.TRef sig ⟨S300000, .i32⟩) select : HloOp τ sig (Elt Ideal)).result F (Proc.devRef .tc main_v570)
      = select (F (Proc.devRef .tc main_v557)) (F (Proc.devRef .tc main_v569)) (F (Proc.devRef .tc main_call60_v1)) := by
  rw [StableHlo.ternary_result]
  simp only [TRef.toBuf, TRef.ofBuf, cast_eq]

/-- After batch 3's thirty-six operations the mask's buffer holds the reference's mask of the batch's point array. -/
theorem readValid3 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps3 (F := Ideal)) W (Proc.devRef .tc main_v557) = validR (W (Proc.devRef .tc main_v541)) := by
  after_results_simp
  rw [hc, hc0, hc2]
  rfl

/-- After batch 3's thirty-six operations the cell ids' buffer holds the reference's cell ids of the batch's point array. -/
theorem readLin3 (W : Valuation τ sig (Elt Ideal))
    (hc : W (Proc.devRef .tc main_cst) = fun i => FloatOps.ofBits (F := Ideal) .f32 (lit0 (S3.rowMajor i)))
    (hc0 : W (Proc.devRef .tc main_cst_0) = fun i => FloatOps.ofBits (F := Ideal) .f32 (lit1 (S3.rowMajor i)))
    (hc2 : W (Proc.devRef .tc main_c) = fun i => lit2 (S3.rowMajor i)) :
    StableHlo.after (linOps3 (F := Ideal)) W (Proc.devRef .tc main_v570) = linR (W (Proc.devRef .tc main_v541)) := by
  simp only [after_cons, after_nil]
  rw [where3]
  refine (select_congr ?_ ?_ ?_).trans
    (rfl : select (validR (W (Proc.devRef .tc main_v541))) (rawR (W (Proc.devRef .tc main_v541)))
      (broadcastInDim S300000 ![] bcast_S_S300000 (constantI S_ 32 262144#32)) = linR (W (Proc.devRef .tc main_v541)))
  · after_results_simp
    rw [hc, hc0, hc2]
    rfl
  · after_results_simp
    rw [hc, hc0]
    rfl
  · after_results_simp
    simp only [TRef.toBuf, TRef.ofBuf, cast_eq]
    rfl

end Cert.Lin

end
-- ==== Proof.LockCore.lean ====
import Idealize.ShloMosaic.Lib.StableHlo.Run
import Idealize.ShloMosaic.Lib.Pipeline.Frame
import proofs.«111982_j16939351015723_2_alg».proof.Proof.KeepCore

namespace Cert.Lock

open Idealize.ShloMosaic Cert.Keep

variable {τ : Topo} {sig : RefSig} {Val : EltTy → Type}

/-! ## A single-assignment list of host operations, read at its end

When every operation of a list writes one buffer of its own (`Cert.Keep.Writes`) and each buffer is written once, the
contents after the WHOLE list satisfy the operations' equations: the result of the `d`-th operation holds, at the end,
that operation's function of its operands' contents AT THE END — the result is not written again, and neither are the
operands, from position `d` on. "Not written from `d` on" is checked on the references' table indices (numbers), which
tell two references of one space apart. -/

/-- A reference's index in its space's table: two references with different indices are different. -/
def key (r : Ref sig .tc) : Nat := r.idx.val

theorem writes_drop : ∀ (d : Nat) (L : List (HloOp τ sig Val)) (W : List (Ref sig .tc)), Writes L W → Writes (L.drop d) (W.drop d)
  | 0, _, _, h => h
  | _ + 1, [], [], h => h
  | d + 1, _ :: L, _ :: W, h => writes_drop d L W h.2
  | _ + 1, [], _ :: _, h => h.elim
  | _ + 1, _ :: _, [], h => h.elim

/-- A reference whose index is none of the results' keeps its contents. -/
theorem keep_key {L : List (HloOp τ sig Val)} {W : List (Ref sig .tc)} (h : Writes L W) (V : Valuation τ sig Val)
    (r : Ref sig .tc) (hr : key r ∉ W.map key) :
    StableHlo.after L V (Proc.devRef .tc r) = V (Proc.devRef .tc r) :=
  after_of_writes L W h V r (fun hm => hr (List.mem_map_of_mem hm))

theorem after_split (d : Nat) (L : List (HloOp τ sig Val)) (V : Valuation τ sig Val) :
    StableHlo.after L V = StableHlo.after (L.drop d) (StableHlo.after (L.take d) V) := by
  conv_lhs => rw [← List.take_append_drop d L]
  rw [StableHlo.after_append]

/-- A reference not written from position `d` on holds at the end what it held before position `d`. -/
theorem stable {L : List (HloOp τ sig Val)} {W : List (Ref sig .tc)} (hW : Writes L W) (V : Valuation τ sig Val) (d : Nat)
    (x : Ref sig .tc) (hx : key x ∉ (W.drop d).map key) :
    StableHlo.after (L.take d) V (Proc.devRef .tc x) = StableHlo.after L V (Proc.devRef .tc x) := by
  rw [after_split d L V]; exact (keep_key (writes_drop d L W hW) _ x hx).symm

/-- The result of the operation at position `d` holds at the end what that operation left. -/
theorem final_at {L : List (HloOp τ sig Val)} {W : List (Ref sig .tc)} (hW : Writes L W) (V : Valuation τ sig Val) (d : Nat)
    {op : HloOp τ sig Val} {rest : List (HloOp τ sig Val)} {y : Ref sig .tc} {wrest : List (Ref sig .tc)}
    (hL : L.drop d = op :: rest) (hWd : W.drop d = y :: wrest) (hy : key y ∉ wrest.map key) :
    StableHlo.after L V (Proc.devRef .tc y) = op.result (StableHlo.after (L.take d) V) (Proc.devRef .tc y) := by
  have h2 : Writes (op :: rest) (y :: wrest) := hL ▸ hWd ▸ writes_drop d L W hW
  rw [after_split d L V, hL, StableHlo.after_cons]
  exact keep_key h2.2 _ y hy

section Kinds

variable {L : List (HloOp τ sig Val)} {W : List (Ref sig .tc)} (hW : Writes L W) (V : Valuation τ sig Val) (d : Nat)
  {rest : List (HloOp τ sig Val)} {wrest : List (Ref sig .tc)}
include hW

local notation "Φ" => StableHlo.after L V

theorem final_nullary {y : Ref sig .tc} {v : y.ty.Contents Val} {hy}
    (hL : L.drop d = StableHlo.nullary y v hy :: rest) (hWd : W.drop d = y :: wrest) (hk : key y ∉ wrest.map key) :
    Φ (Proc.devRef .tc y) = v :=
  (final_at hW V d hL hWd hk).trans (StableHlo.nullary_result y v hy _)

theorem final_unary {x y : Ref sig .tc} {f : x.ty.Contents Val → y.ty.Contents Val} {hx hy}
    (hL : L.drop d = StableHlo.unary x y f hx hy :: rest) (hWd : W.drop d = y :: wrest) (hk : key y ∉ wrest.map key)
    (sx : key x ∉ (W.drop d).map key) :
    Φ (Proc.devRef .tc y) = f (Φ (Proc.devRef .tc x)) :=
  (final_at hW V d hL hWd hk).trans ((StableHlo.unary_result x y f hx hy _).trans (congrArg f (stable hW V d x sx)))

theorem final_binary {a b y : Ref sig .tc} {f : a.ty.Contents Val → b.ty.Contents Val → y.ty.Contents Val} {ha hb hy}
    (hL : L.drop d = StableHlo.binary a b y f ha hb hy :: rest) (hWd : W.drop d = y :: wrest) (hk : key y ∉ wrest.map key)
    (sa : key a ∉ (W.drop d).map key) (sb : key b ∉ (W.drop d).map key) :
    Φ (Proc.devRef .tc y) = f (Φ (Proc.devRef .tc a)) (Φ (Proc.devRef .tc b)) :=
  (final_at hW V d hL hWd hk).trans ((StableHlo.binary_result a b y f ha hb hy _).trans
    (congrArg₂ f (stable hW V d a sa) (stable hW V d b sb)))

theorem final_ternary {c a b y : Ref sig .tc}
    {f : c.ty.Contents Val → a.ty.Contents Val → b.ty.Contents Val → y.ty.Contents Val} {hc ha hb hy}
    (hL : L.drop d = StableHlo.ternary c a b y f hc ha hb hy :: rest) (hWd : W.drop d = y :: wrest) (hk : key y ∉ wrest.map key)
    (sc : key c ∉ (W.drop d).map key) (sa : key a ∉ (W.drop d).map key) (sb : key b ∉ (W.drop d).map key) :
    Φ (Proc.devRef .tc y) = f (Φ (Proc.devRef .tc c)) (Φ (Proc.devRef .tc a)) (Φ (Proc.devRef .tc b)) :=
  (final_at hW V d hL hWd hk).trans ((StableHlo.ternary_result c a b y f hc ha hb hy _).trans
    (congr (congrArg₂ f (stable hW V d c sc) (stable hW V d a sa)) (stable hW V d b sb)))

theorem final_reshape {x y : Ref sig .tc} {he : x.ty.elt = y.ty.elt} {hn : x.ty.shape.ShapeCasts y.ty.shape} {hx hy}
    (hL : L.drop d = StableHlo.reshape x y he hn hx hy :: rest) (hWd : W.drop d = y :: wrest) (hk : key y ∉ wrest.map key)
    (sx : key x ∉ (W.drop d).map key) :
    Φ (Proc.devRef .tc y) = fun i => he ▸ shapeCast y.ty.shape (Φ (Proc.devRef .tc x)) hn i :=
  (final_at hW V d hL hWd hk).trans ((StableHlo.reshape_result x y he hn hx hy _).trans
    (congrArg (fun t => fun i => he ▸ shapeCast y.ty.shape t hn i) (stable hW V d x sx)))

theorem final_nary {n : Nat} {xs : Fin n → Ref sig .tc} {y : Ref sig .tc}
    {f : ((k : Fin n) → (xs k).ty.Contents Val) → y.ty.Contents Val} {hxs hy}
    (hL : L.drop d = StableHlo.nary xs y f hxs hy :: rest) (hWd : W.drop d = y :: wrest) (hk : key y ∉ wrest.map key)
    (sx : ∀ k, key (xs k) ∉ (W.drop d).map key) :
    Φ (Proc.devRef .tc y) = f (fun k => Φ (Proc.devRef .tc (xs k))) :=
  (final_at hW V d hL hWd hk).trans ((StableHlo.nary_result xs y f hxs hy _).trans
    (congrArg f (funext fun k => stable hW V d (xs k) (sx k))))

end Kinds

/-- A three-operand operation over a LITERAL family of references: the result with each operand's contents at its own
    reference. -/
theorem nary3_result {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-! ## Two programs in step: equal operands, one function -/

theorem step0 {β : Type} {y y' v : β} (e : y = v) (e' : y' = v) : y = y' := e.trans e'.symm
theorem step1 {α β : Type} {f : α → β} {a a' : α} {y y' : β} (h : a = a') (e : y = f a) (e' : y' = f a') : y = y' :=
  e.trans ((congrArg f h).trans e'.symm)
theorem step2 {α₁ α₂ β : Type} {f : α₁ → α₂ → β} {a a' : α₁} {b b' : α₂} {y y' : β} (h₁ : a = a') (h₂ : b = b')
    (e : y = f a b) (e' : y' = f a' b') : y = y' :=
  e.trans ((congrArg₂ f h₁ h₂).trans e'.symm)
theorem step3 {α₁ α₂ α₃ β : Type} {f : α₁ → α₂ → α₃ → β} {a a' : α₁} {b b' : α₂} {c c' : α₃} {y y' : β}
    (h₁ : a = a') (h₂ : b = b') (h₃ : c = c') (e : y = f a b c) (e' : y' = f a' b' c') : y = y' := by
  subst h₁; subst h₂; subst h₃; exact e.trans e'.symm

end Cert.Lock
-- ==== Proof.BatchFast0.lean ====
/- TABLE: batch 0 of four, the two programs' operations after the cell ids walked in step, one line per pair of
   operations; then the batch's statement from the walk's three output lines. -/
import proofs.«111982_j16939351015723_2_alg».proof.Proof.KeepK
import proofs.«111982_j16939351015723_2_alg».proof.Proof.KeepR
import proofs.«111982_j16939351015723_2_alg».proof.Proof.LockCore
import Idealize.ShloMosaic.PureOps.Ideal

set_option maxRecDepth 16384

noncomputable section
namespace Cert.Bridge.Fast0
open Idealize.ShloMosaic Idealize.ShloMosaic.TcCoe Idealize.SL.Sem Idealize.ShloMosaic.StableHlo Cert.Lock

/-! Batch 0: the kernel program's operations after its cell ids and mask, and the reference's, are the same operations
in the same order. Walked in step: line `k` says that the `k`-th results agree at the end of the two lists, from the
agreement of its operands (earlier lines, or the three inputs: points, cell ids, mask). -/

section Walk
variable (WK : Valuation KernelIdeal.τ KernelIdeal.sig (Elt Ideal)) (WR : Valuation ReferenceIdeal.τ ReferenceIdeal.sig (Elt Ideal))
  (hP : StableHlo.after (KernelIdeal.Tail.ks0 (F := Ideal)) WK (Proc.devRef .tc KernelIdeal.main_v13) = StableHlo.after (ReferenceIdeal.Hand.tlOps0 (F := Ideal)) WR (Proc.devRef .tc ReferenceIdeal.main_v13))
  (hLin : StableHlo.after (KernelIdeal.Tail.ks0 (F := Ideal)) WK (Proc.devRef .tc KernelIdeal.main_v66) = StableHlo.after (ReferenceIdeal.Hand.tlOps0 (F := Ideal)) WR (Proc.devRef .tc ReferenceIdeal.main_v42))
  (hVal : StableHlo.after (KernelIdeal.Tail.ks0 (F := Ideal)) WK (Proc.devRef .tc KernelIdeal.main_v68) = StableHlo.after (ReferenceIdeal.Hand.tlOps0 (F := Ideal)) WR (Proc.devRef .tc ReferenceIdeal.main_v29))
include hP hLin hVal

-- the contents at the end of a list are compared as they stand, never computed
attribute [local irreducible] StableHlo.after

theorem h0 : StableHlo.after (KernelIdeal.Tail.ks0 (F := Ideal)) WK (Proc.devRef .tc KernelIdeal.main_v69) = StableHlo.after (ReferenceIdeal.Hand.tlOps0 (F := Ideal)) WR (Proc.devRef .tc ReferenceIdeal.main_v43) :=
  by
  have eK := final_nullary (KernelIdeal.Tail.writes_ks0 (F := Ideal)) WK 5 (rest := (KernelIdeal.Tail.ks0 (F := Ideal)).drop 6) (wrest := KernelIdeal.Tail.wr_ks0.drop 6) (y := KernelIdeal.main_v69) rfl rfl (by decide +kernel)
  have eR := final_nullary (ReferenceIdeal.Hand.writes_tlOps0 (F := Ideal)) WR 0 (rest := (ReferenceIdeal.Hand.tlOps0 (F := Ideal)).drop 1) (wrest := ReferenceIdeal.Hand.wr_tlOps0.drop 1) (y := ReferenceIdeal.main_v43) rfl rfl (by decide +kernel)
  rw [eK, eR]
  try rfl
theorem h1 : StableHlo.after (KernelIdeal.Tail.ks0 (F := Ideal)) WK (Proc.devRef .tc KernelIdeal.main_c_35) = StableHlo.after (ReferenceIdeal.Hand.tlOps0 (F := Ideal)) WR (Proc.devRef .tc ReferenceIdeal.main_c_15) :=
  by
  have eK := final_nullary (KernelIdeal.Tail.writes_ks0 (F := Ideal)) WK 6 (rest := (KernelIdeal.Tail.ks0 (F := Ideal)).drop 7) (wrest := KernelIdeal.Tail.wr_ks0.drop 7) (y := KernelIdeal.main_c_35) rfl rfl (by decide +kernel)
  have eR := final_nullary (ReferenceIdeal.Hand.writes_tlOps0 (F := Ideal)) WR 1 (rest := (ReferenceIdeal.Hand.tlOps0 (F := Ideal)).drop 2) (wrest := ReferenceIdeal.Hand.wr_tlOps0.drop 2) (y := ReferenceIdeal.main_c_15) rfl rfl (by decide +kernel)
  rw [eK, eR]
  try rfl
theorem h2 : StableHlo.after (KernelIdeal.Tail.ks0 (F := Ideal)) WK (Proc.devRef .tc KernelIdeal.main_v70) = StableHlo.after (ReferenceIdeal.Hand.tlOps0 (F := Ideal)) WR (Proc.devRef .tc ReferenceIdeal.main_v44) :=
  by
  have eK := final_unary (KernelIdeal.Tail.writes_ks0 (F := Ideal)) WK 7 (rest := (KernelIdeal.Tail.ks0 (F := Ideal)).drop 8) (wrest := KernelIdeal.Tail.wr_ks0.drop 8) (y := KernelIdeal.main_v70) (x := KernelIdeal.main_c_35) rfl rfl (by decide +kernel) (by decide +kernel)
  have eR := final_unary (ReferenceIdeal.Hand.writes_tlOps0 (F := Ideal)) WR 2 (rest := (ReferenceIdeal.Hand.tlOps0 (F := Ideal)).drop 3) (wrest := ReferenceIdeal.Hand.wr_tlOps0.drop 3) (y := ReferenceIdeal.main_v44) (x := ReferenceIdeal.main_c_15) rfl rfl (by decide +kernel) (by decide +kernel)
  rw [eK, eR, h1 WK WR hP hLin hVal]
  try rfl
theorem h3 : StableHlo.after (KernelIdeal.Tail.ks0 (F := Ideal)) WK (Proc.devRef .tc KernelIdeal.main_c_36) = StableHlo.after (ReferenceIdeal.Hand.tlOps0 (F := Ideal)) WR (Proc.devRef .tc ReferenceIdeal.main_c_16) :=
  by
  have eK := final_nullary (KernelIdeal.Tail.writes_ks0 (F := Ideal)) WK 8 (rest := (KernelIdeal.Tail.ks0 (F := Ideal)).drop 9) (wrest := KernelIdeal.Tail.wr_ks0.drop 9) (y := KernelIdeal.main_c_36) rfl rfl (by decide +kernel)
  have eR := final_nullary (ReferenceIdeal.Hand.writes_tlOps0 (F := Ideal)) WR 3 (rest := (ReferenceIdeal.Hand.tlOps0 (F := Ideal)).drop 4) (wrest := ReferenceIdeal.Hand.wr_tlOps0.drop 4) (y := ReferenceIdeal.main_c_16) rfl rfl (by decide +kernel)
  rw [eK, eR]
  try rfl
theorem h4 : StableHlo.after (KernelIdeal.Tail.ks0 (F := Ideal)) WK (Proc.devRef .tc KernelIdeal.main_v71) = StableHlo.after (ReferenceIdeal.Hand.tlOps0 (F := Ideal)) WR (Proc.devRef .tc ReferenceIdeal.main_v45) :=
  by
  have eK := final_unary (KernelIdeal.Tail.writes_ks0 (F := Ideal)) WK 9 (rest := (KernelIdeal.Tail.ks0 (F := Ideal)).drop 10) (wrest := KernelIdeal.Tail.wr_ks0.drop 10) (y := KernelIdeal.main_v71) (x := KernelIdeal.main_c_36) rfl rfl (by decide +kernel) (by decide +kernel)
  have eR := final_unary (ReferenceIdeal.Hand.writes_tlOps0 (F := Ideal)) WR 4 (rest := (ReferenceIdeal.Hand.tlOps0 (F := Ideal)).drop 5) (wrest := ReferenceIdeal.Hand.wr_tlOps0.drop 5) (y := ReferenceIdeal.main_v45) (x := ReferenceIdeal.main_c_16) rfl rfl (by decide +kernel) (by decide +kernel)
  rw [eK, eR, h3 WK WR hP hLin hVal]
  try rfl
theorem h5 : StableHlo.after (KernelIdeal.Tail.ks0 (F := Ideal)) WK (Proc.devRef .tc KernelIdeal.main_v72) = StableHlo.after (ReferenceIdeal.Hand.tlOps0 (F := Ideal)) WR (Proc.devRef .tc ReferenceIdeal.main_v46) :=
  by
  have eK := final_binary (KernelIdeal.Tail.writes_ks0 (F := Ideal)) WK 10 (rest := (KernelIdeal.Tail.ks0 (F := Ideal)).drop 11) (wrest := KernelIdeal.Tail.wr_ks0.drop 11) (y := KernelIdeal.main_v72) (a := KernelIdeal.main_v66) (b := KernelIdeal.main_v71) rfl rfl (by decide +kernel) (by decide +kernel) (by decide +kernel)
  have eR := final_binary (ReferenceIdeal.Hand.writes_tlOps0 (F := Ideal)) WR 5 (rest := (ReferenceIdeal.Hand.tlOps0 (F := Ideal)).drop 6) (wrest := ReferenceIdeal.Hand.wr_tlOps0.drop 6) (y := ReferenceIdeal.main_v46) (a := ReferenceIdeal.main_v42) (b := ReferenceIdeal.main_v45) rfl rfl (by decide +kernel) (by decide +kernel) (by decide +kernel)
  rw [eK, eR, hLin, h4 WK WR hP hLin hVal]
  try rfl
theorem h6 : StableHlo.after (KernelIdeal.Tail.ks0 (F := Ideal)) WK (Proc.devRef .tc KernelIdeal.main_c_37) = StableHlo.after (ReferenceIdeal.Hand.tlOps0 (F := Ideal)) WR (Proc.devRef .tc ReferenceIdeal.main_c_17) :=
  by
  have eK := final_nullary (KernelIdeal.Tail.writes_ks0 (F := Ideal)) WK 11 (rest := (KernelIdeal.Tail.ks0 (F := Ideal)).drop 12) (wrest := KernelIdeal.Tail.wr_ks0.drop 12) (y := KernelIdeal.main_c_37) rfl rfl (by decide +kernel)
  have eR := final_nullary (ReferenceIdeal.Hand.writes_tlOps0 (F := Ideal)) WR 6 (rest := (ReferenceIdeal.Hand.tlOps0 (F := Ideal)).drop 7) (wrest := ReferenceIdeal.Hand.wr_tlOps0.drop 7) (y := ReferenceIdeal.main_c_17) rfl rfl (by decide +kernel)
  rw [eK, eR]
  try rfl
theorem h7 : StableHlo.after (KernelIdeal.Tail.ks0 (F := Ideal)) WK (Proc.devRef .tc KernelIdeal.main_v73) = StableHlo.after (ReferenceIdeal.Hand.tlOps0 (F := Ideal)) WR (Proc.devRef .tc ReferenceIdeal.main_v47) :=
  by
  have eK := final_unary (KernelIdeal.Tail.writes_ks0 (F := Ideal)) WK 12 (rest := (KernelIdeal.Tail.ks0 (F := Ideal)).drop 13) (wrest := KernelIdeal.Tail.wr_ks0.drop 13) (y := KernelIdeal.main_v73) (x := KernelIdeal.main_c_37) rfl rfl (by decide +kernel) (by decide +kernel)
  have eR := final_unary (ReferenceIdeal.Hand.writes_tlOps0 (F := Ideal)) WR 7 (rest := (ReferenceIdeal.Hand.tlOps0 (F := Ideal)).drop 8) (wrest := ReferenceIdeal.Hand.wr_tlOps0.drop 8) (y := ReferenceIdeal.main_v47) (x := ReferenceIdeal.main_c_17) rfl rfl (by decide +kernel) (by decide +kernel)
  rw [eK, eR, h6 WK WR hP hLin hVal]
  try rfl
theorem h8 : StableHlo.after (KernelIdeal.Tail.ks0 (F := Ideal)) WK (Proc.devRef .tc KernelIdeal.main_v74) = StableHlo.after (ReferenceIdeal.Hand.tlOps0 (F := Ideal)) WR (Proc.devRef .tc ReferenceIdeal.main_v48) :=
  by
  have eK := final_binary (KernelIdeal.Tail.writes_ks0 (F := Ideal)) WK 13 (rest := (KernelIdeal.Tail.ks0 (F := Ideal)).drop 14) (wrest := KernelIdeal.Tail.wr_ks0.drop 14) (y := KernelIdeal.main_v74) (a := KernelIdeal.main_v66) (b := KernelIdeal.main_v73) rfl rfl (by decide +kernel) (by decide +kernel) (by decide +kernel)
  have eR := final_binary (ReferenceIdeal.Hand.writes_tlOps0 (F := Ideal)) WR 8 (rest := (ReferenceIdeal.Hand.tlOps0 (F := Ideal)).drop 9) (wrest := ReferenceIdeal.Hand.wr_tlOps0.drop 9) (y := ReferenceIdeal.main_v48) (a := ReferenceIdeal.main_v42) (b := ReferenceIdeal.main_v47) rfl rfl (by decide +kernel) (by decide +kernel) (by decide +kernel)
  rw [eK, eR, hLin, h7 WK WR hP hLin hVal]
  try rfl
theorem h9 : StableHlo.after (KernelIdeal.Tail.ks0 (F := Ideal)) WK (Proc.devRef .tc KernelIdeal.main_v75) = StableHlo.after (ReferenceIdeal.Hand.tlOps0 (F := Ideal)) WR (Proc.devRef .tc ReferenceIdeal.main_v49) :=
  by
  have eK := final_ternary (KernelIdeal.Tail.writes_ks0 (F := Ideal)) WK 14 (rest := (KernelIdeal.Tail.ks0 (F := Ideal)).drop 15) (wrest := KernelIdeal.Tail.wr_ks0.drop 15) (y := KernelIdeal.main_v75) (c := KernelIdeal.main_v72) (a := KernelIdeal.main_v74) (b := KernelIdeal.main_v66) rfl rfl (by decide +kernel) (by decide +kernel) (by decide +kernel) (by decide +kernel)
  have eR := final_ternary (ReferenceIdeal.Hand.writes_tlOps0 (F := Ideal)) WR 9 (rest := (ReferenceIdeal.Hand.tlOps0 (F := Ideal)).drop 10) (wrest := ReferenceIdeal.Hand.wr_tlOps0.drop 10) (y := ReferenceIdeal.main_v49) (c := ReferenceIdeal.main_v46) (a := ReferenceIdeal.main_v48) (b := ReferenceIdeal.main_v42) rfl rfl (by decide +kernel) (by decide +kernel) (by decide +kernel) (by decide +kernel)
  rw [eK, eR, h5 WK WR hP hLin hVal, h8 WK WR hP hLin hVal, hLin]
  try rfl
theorem h10 : StableHlo.after (KernelIdeal.Tail.ks0 (F := Ideal)) WK (Proc.devRef .tc KernelIdeal.main_v76) = StableHlo.after (ReferenceIdeal.Hand.tlOps0 (F := Ideal)) WR (Proc.devRef .tc ReferenceIdeal.main_v50) :=
  by
  have eK := final_unary (KernelIdeal.Tail.writes_ks0 (F := Ideal)) WK 15 (rest := (KernelIdeal.Tail.ks0 (F := Ideal)).drop 16) (wrest := KernelIdeal.Tail.wr_ks0.drop 16) (y := KernelIdeal.main_v76) (x := KernelIdeal.main_v75) rfl rfl (by decide +kernel) (by decide +kernel)
  have eR := final_unary (ReferenceIdeal.Hand.writes_tlOps0 (F := Ideal)) WR 10 (rest := (ReferenceIdeal.Hand.tlOps0 (F := Ideal)).drop 11) (wrest := ReferenceIdeal.Hand.wr_tlOps0.drop 11) (y := ReferenceIdeal.main_v50) (x := ReferenceIdeal.main_v49) rfl rfl (by decide +kernel) (by decide +kernel)
  rw [eK, eR, h9 WK WR hP hLin hVal]
  try rfl
theorem h11 : StableHlo.after (KernelIdeal.Tail.ks0 (F := Ideal)) WK (Proc.devRef .tc KernelIdeal.main_v77) = StableHlo.after (ReferenceIdeal.Hand.tlOps0 (F := Ideal)) WR (Proc.devRef .tc ReferenceIdeal.main_v51) :=
  by
  have eK := final_ternary (KernelIdeal.Tail.writes_ks0 (F := Ideal)) WK 16 (rest := (KernelIdeal.Tail.ks0 (F := Ideal)).drop 17) (wrest := KernelIdeal.Tail.wr_ks0.drop 17) (y := KernelIdeal.main_v77) (c := KernelIdeal.main_v70) (a := KernelIdeal.main_v76) (b := KernelIdeal.main_v69) rfl rfl (by decide +kernel) (by decide +kernel) (by decide +kernel) (by decide +kernel)
  have eR := final_ternary (ReferenceIdeal.Hand.writes_tlOps0 (F := Ideal)) WR 11 (rest := (ReferenceIdeal.Hand.tlOps0 (F := Ideal)).drop 12) (wrest := ReferenceIdeal.Hand.wr_tlOps0.drop 12) (y := ReferenceIdeal.main_v51) (c := ReferenceIdeal.main_v44) (a := ReferenceIdeal.main_v50) (b := ReferenceIdeal.main_v43) rfl rfl (by decide +kernel) (by decide +kernel) (by decide +kernel) (by decide +kernel)
  rw [eK, eR, h2 WK WR hP hLin hVal, h10 WK WR hP hLin hVal, h0 WK WR hP hLin hVal]
  try rfl
theorem h12 : StableHlo.after (KernelIdeal.Tail.ks0 (F := Ideal)) WK (Proc.devRef .tc KernelIdeal.main_c_38) = StableHlo.after (ReferenceIdeal.Hand.tlOps0 (F := Ideal)) WR (Proc.devRef .tc ReferenceIdeal.main_c_18) :=
  by
  have eK := final_nullary (KernelIdeal.Tail.writes_ks0 (F := Ideal)) WK 17 (rest := (KernelIdeal.Tail.ks0 (F := Ideal)).drop 18) (wrest := KernelIdeal.Tail.wr_ks0.drop 18) (y := KernelIdeal.main_c_38) rfl rfl (by decide +kernel)
  have eR := final_nullary (ReferenceIdeal.Hand.writes_tlOps0 (F := Ideal)) WR 12 (rest := (ReferenceIdeal.Hand.tlOps0 (F := Ideal)).drop 13) (wrest := ReferenceIdeal.Hand.wr_tlOps0.drop 13) (y := ReferenceIdeal.main_c_18) rfl rfl (by decide +kernel)
  rw [eK, eR]
  try rfl
theorem h13 : StableHlo.after (KernelIdeal.Tail.ks0 (F := Ideal)) WK (Proc.devRef .tc KernelIdeal.main_v78) = StableHlo.after (ReferenceIdeal.Hand.tlOps0 (F := Ideal)) WR (Proc.devRef .tc ReferenceIdeal.main_v52) :=
  by
  have eK := final_unary (KernelIdeal.Tail.writes_ks0 (F := Ideal)) WK 18 (rest := (KernelIdeal.Tail.ks0 (F := Ideal)).drop 19) (wrest := KernelIdeal.Tail.wr_ks0.drop 19) (y := KernelIdeal.main_v78) (x := KernelIdeal.main_c_38) rfl rfl (by decide +kernel) (by decide +kernel)
  have eR := final_unary (ReferenceIdeal.Hand.writes_tlOps0 (F := Ideal)) WR 13 (rest := (ReferenceIdeal.Hand.tlOps0 (F := Ideal)).drop 14) (wrest := ReferenceIdeal.Hand.wr_tlOps0.drop 14) (y := ReferenceIdeal.main_v52) (x := ReferenceIdeal.main_c_18) rfl rfl (by decide +kernel) (by decide +kernel)
  rw [eK, eR, h12 WK WR hP hLin hVal]
  try rfl
theorem h14 : StableHlo.after (KernelIdeal.Tail.ks0 (F := Ideal)) WK (Proc.devRef .tc KernelIdeal.main_v79) = StableHlo.after (ReferenceIdeal.Hand.tlOps0 (F := Ideal)) WR (Proc.devRef .tc ReferenceIdeal.main_v53) :=
  by
  have eK := final_binary (KernelIdeal.Tail.writes_ks0 (F := Ideal)) WK 19 (rest := (KernelIdeal.Tail.ks0 (F := Ideal)).drop 20) (wrest := KernelIdeal.Tail.wr_ks0.drop 20) (y := KernelIdeal.main_v79) (a := KernelIdeal.main_v66) (b := KernelIdeal.main_v78) rfl rfl (by decide +kernel) (by decide +kernel) (by decide +kernel)
  have eR := final_binary (ReferenceIdeal.Hand.writes_tlOps0 (F := Ideal)) WR 14 (rest := (ReferenceIdeal.Hand.tlOps0 (F := Ideal)).drop 15) (wrest := ReferenceIdeal.Hand.wr_tlOps0.drop 15) (y := ReferenceIdeal.main_v53) (a := ReferenceIdeal.main_v42) (b := ReferenceIdeal.main_v52) rfl rfl (by decide +kernel) (by decide +kernel) (by decide +kernel)
  rw [eK, eR, hLin, h13 WK WR hP hLin hVal]
  try rfl
theorem h15 : StableHlo.after (KernelIdeal.Tail.ks0 (F := Ideal)) WK (Proc.devRef .tc KernelIdeal.main_c_39) = StableHlo.after (ReferenceIdeal.Hand.tlOps0 (F := Ideal)) WR (Proc.devRef .tc ReferenceIdeal.main_c_19) :=
  by
  have eK := final_nullary (KernelIdeal.Tail.writes_ks0 (F := Ideal)) WK 20 (rest := (KernelIdeal.Tail.ks0 (F := Ideal)).drop 21) (wrest := KernelIdeal.Tail.wr_ks0.drop 21) (y := KernelIdeal.main_c_39) rfl rfl (by decide +kernel)
  have eR := final_nullary (ReferenceIdeal.Hand.writes_tlOps0 (F := Ideal)) WR 15 (rest := (ReferenceIdeal.Hand.tlOps0 (F := Ideal)).drop 16) (wrest := ReferenceIdeal.Hand.wr_tlOps0.drop 16) (y := ReferenceIdeal.main_c_19) rfl rfl (by decide +kernel)
  rw [eK, eR]
  try rfl
theorem h16 : StableHlo.after (KernelIdeal.Tail.ks0 (F := Ideal)) WK (Proc.devRef .tc KernelIdeal.main_v80) = StableHlo.after (ReferenceIdeal.Hand.tlOps0 (F := Ideal)) WR (Proc.devRef .tc ReferenceIdeal.main_v54) :=
  by
  have eK := final_unary (KernelIdeal.Tail.writes_ks0 (F := Ideal)) WK 21 (rest := (KernelIdeal.Tail.ks0 (F := Ideal)).drop 22) (wrest := KernelIdeal.Tail.wr_ks0.drop 22) (y := KernelIdeal.main_v80) (x := KernelIdeal.main_c_39) rfl rfl (by decide +kernel) (by decide +kernel)
  have eR := final_unary (ReferenceIdeal.Hand.writes_tlOps0 (F := Ideal)) WR 16 (rest := (ReferenceIdeal.Hand.tlOps0 (F := Ideal)).drop 17) (wrest := ReferenceIdeal.Hand.wr_tlOps0.drop 17) (y := ReferenceIdeal.main_v54) (x := ReferenceIdeal.main_c_19) rfl rfl (by decide +kernel) (by decide +kernel)
  rw [eK, eR, h15 WK WR hP hLin hVal]
  try rfl
theorem h17 : StableHlo.after (KernelIdeal.Tail.ks0 (F := Ideal)) WK (Proc.devRef .tc KernelIdeal.main_v81) = StableHlo.after (ReferenceIdeal.Hand.tlOps0 (F := Ideal)) WR (Proc.devRef .tc ReferenceIdeal.main_v55) :=
  by
  have eK := final_binary (KernelIdeal.Tail.writes_ks0 (F := Ideal)) WK 22 (rest := (KernelIdeal.Tail.ks0 (F := Ideal)).drop 23) (wrest := KernelIdeal.Tail.wr_ks0.drop 23) (y := KernelIdeal.main_v81) (a := KernelIdeal.main_v66) (b := KernelIdeal.main_v80) rfl rfl (by decide +kernel) (by decide +kernel) (by decide +kernel)
  have eR := final_binary (ReferenceIdeal.Hand.writes_tlOps0 (F := Ideal)) WR 17 (rest := (ReferenceIdeal.Hand.tlOps0 (F := Ideal)).drop 18) (wrest := ReferenceIdeal.Hand.wr_tlOps0.drop 18) (y := ReferenceIdeal.main_v55) (a := ReferenceIdeal.main_v42) (b := ReferenceIdeal.main_v54) rfl rfl (by decide +kernel) (by decide +kernel) (by decide +kernel)
  rw [eK, eR, hLin, h16 WK WR hP hLin hVal]
  try rfl
theorem h18 : StableHlo.after (KernelIdeal.Tail.ks0 (F := Ideal)) WK (Proc.devRef .tc KernelIdeal.main_v82) = StableHlo.after (ReferenceIdeal.Hand.tlOps0 (F := Ideal)) WR (Proc.devRef .tc ReferenceIdeal.main_v56) :=
  by
  have eK := final_ternary (KernelIdeal.Tail.writes_ks0 (F := Ideal)) WK 23 (rest := (KernelIdeal.Tail.ks0 (F := Ideal)).drop 24) (wrest := KernelIdeal.Tail.wr_ks0.drop 24) (y := KernelIdeal.main_v82) (c := KernelIdeal.main_v79) (a := KernelIdeal.main_v81) (b := KernelIdeal.main_v66) rfl rfl (by decide +kernel) (by decide +kernel) (by decide +kernel) (by decide +kernel)
  have eR := final_ternary (ReferenceIdeal.Hand.writes_tlOps0 (F := Ideal)) WR 18 (rest := (ReferenceIdeal.Hand.tlOps0 (F := Ideal)).drop 19) (wrest := ReferenceIdeal.Hand.wr_tlOps0.drop 19) (y := ReferenceIdeal.main_v56) (c := ReferenceIdeal.main_v53) (a := ReferenceIdeal.main_v55) (b := ReferenceIdeal.main_v42) rfl rfl (by decide +kernel) (by decide +kernel) (by decide +kernel) (by decide +kernel)
  rw [eK, eR, h14 WK WR hP hLin hVal, h17 WK WR hP hLin hVal, hLin]
  try rfl
theorem h19 : StableHlo.after (KernelIdeal.Tail.ks0 (F := Ideal)) WK (Proc.devRef .tc KernelIdeal.main_v83) = StableHlo.after (ReferenceIdeal.Hand.tlOps0 (F := Ideal)) WR (Proc.devRef .tc ReferenceIdeal.main_v57) :=
  by
  have eK := final_unary (KernelIdeal.Tail.writes_ks0 (F := Ideal)) WK 24 (rest := (KernelIdeal.Tail.ks0 (F := Ideal)).drop 25) (wrest := KernelIdeal.Tail.wr_ks0.drop 25) (y := KernelIdeal.main_v83) (x := KernelIdeal.main_v82) rfl rfl (by decide +kernel) (by decide +kernel)
  have eR := final_unary (ReferenceIdeal.Hand.writes_tlOps0 (F := Ideal)) WR 19 (rest := (ReferenceIdeal.Hand.tlOps0 (F := Ideal)).drop 20) (wrest := ReferenceIdeal.Hand.wr_tlOps0.drop 20) (y := ReferenceIdeal.main_v57) (x := ReferenceIdeal.main_v56) rfl rfl (by decide +kernel) (by decide +kernel)
  rw [eK, eR, h18 WK WR hP hLin hVal]
  try rfl
theorem h20 : StableHlo.after (KernelIdeal.Tail.ks0 (F := Ideal)) WK (Proc.devRef .tc KernelIdeal.main_v84) = StableHlo.after (ReferenceIdeal.Hand.tlOps0 (F := Ideal)) WR (Proc.devRef .tc ReferenceIdeal.main_v58) :=
  by
  have eK := final_binary (KernelIdeal.Tail.writes_ks0 (F := Ideal)) WK 25 (rest := (KernelIdeal.Tail.ks0 (F := Ideal)).drop 26) (wrest := KernelIdeal.Tail.wr_ks0.drop 26) (y := KernelIdeal.main_v84) (a := KernelIdeal.main_v77) (b := KernelIdeal.main_v83) rfl rfl (by decide +kernel) (by decide +kernel) (by decide +kernel)
  have eR := final_binary (ReferenceIdeal.Hand.writes_tlOps0 (F := Ideal)) WR 20 (rest := (ReferenceIdeal.Hand.tlOps0 (F := Ideal)).drop 21) (wrest := ReferenceIdeal.Hand.wr_tlOps0.drop 21) (y := ReferenceIdeal.main_v58) (a := ReferenceIdeal.main_v51) (b := ReferenceIdeal.main_v57) rfl rfl (by decide +kernel) (by decide +kernel) (by decide +kernel)
  rw [eK, eR, h11 WK WR hP hLin hVal, h19 WK WR hP hLin hVal]
  try rfl
theorem h21 : StableHlo.after (KernelIdeal.Tail.ks0 (F := Ideal)) WK (Proc.devRef .tc KernelIdeal.main_v85) = StableHlo.after (ReferenceIdeal.Hand.tlOps0 (F := Ideal)) WR (Proc.devRef .tc ReferenceIdeal.main_v59) :=
  by
  have eK := final_binary (KernelIdeal.Tail.writes_ks0 (F := Ideal)) WK 26 (rest := (KernelIdeal.Tail.ks0 (F := Ideal)).drop 27) (wrest := KernelIdeal.Tail.wr_ks0.drop 27) (y := KernelIdeal.main_v85) (a := KernelIdeal.main_v84) (b := KernelIdeal.main_v69) rfl rfl (by decide +kernel) (by decide +kernel) (by decide +kernel)
  have eR := final_binary (ReferenceIdeal.Hand.writes_tlOps0 (F := Ideal)) WR 21 (rest := (ReferenceIdeal.Hand.tlOps0 (F := Ideal)).drop 22) (wrest := ReferenceIdeal.Hand.wr_tlOps0.drop 22) (y := ReferenceIdeal.main_v59) (a := ReferenceIdeal.main_v58) (b := ReferenceIdeal.main_v43) rfl rfl (by decide +kernel) (by decide +kernel) (by decide +kernel)
  rw [eK, eR, h20 WK WR hP hLin hVal, h0 WK WR hP hLin hVal]
  try rfl
theorem h22 : StableHlo.after (KernelIdeal.Tail.ks0 (F := Ideal)) WK (Proc.devRef .tc KernelIdeal.main_v86) = StableHlo.after (ReferenceIdeal.Hand.tlOps0 (F := Ideal)) WR (Proc.devRef .tc ReferenceIdeal.main_v60) :=
  by
  have eK := final_binary (KernelIdeal.Tail.writes_ks0 (F := Ideal)) WK 27 (rest := (KernelIdeal.Tail.ks0 (F := Ideal)).drop 28) (wrest := KernelIdeal.Tail.wr_ks0.drop 28) (y := KernelIdeal.main_v86) (a := KernelIdeal.main_v68) (b := KernelIdeal.main_v85) rfl rfl (by decide +kernel) (by decide +kernel) (by decide +kernel)
  have eR := final_binary (ReferenceIdeal.Hand.writes_tlOps0 (F := Ideal)) WR 22 (rest := (ReferenceIdeal.Hand.tlOps0 (F := Ideal)).drop 23) (wrest := ReferenceIdeal.Hand.wr_tlOps0.drop 23) (y := ReferenceIdeal.main_v60) (a := ReferenceIdeal.main_v29) (b := ReferenceIdeal.main_v59) rfl rfl (by decide +kernel) (by decide +kernel) (by decide +kernel)
  rw [eK, eR, hVal, h21 WK WR hP hLin hVal]
  try rfl
theorem h23 : StableHlo.after (KernelIdeal.Tail.ks0 (F := Ideal)) WK (Proc.devRef .tc KernelIdeal.main_v87) = StableHlo.after (ReferenceIdeal.Hand.tlOps0 (F := Ideal)) WR (Proc.devRef .tc ReferenceIdeal.main_v61) :=
  by
  have eK := final_unary (KernelIdeal.Tail.writes_ks0 (F := Ideal)) WK 28 (rest := (KernelIdeal.Tail.ks0 (F := Ideal)).drop 29) (wrest := KernelIdeal.Tail.wr_ks0.drop 29) (y := KernelIdeal.main_v87) (x := KernelIdeal.main_v86) rfl rfl (by decide +kernel) (by decide +kernel)
  have eR := final_unary (ReferenceIdeal.Hand.writes_tlOps0 (F := Ideal)) WR 23 (rest := (ReferenceIdeal.Hand.tlOps0 (F := Ideal)).drop 24) (wrest := ReferenceIdeal.Hand.wr_tlOps0.drop 24) (y := ReferenceIdeal.main_v61) (x := ReferenceIdeal.main_v60) rfl rfl (by decide +kernel) (by decide +kernel)
  rw [eK, eR, h22 WK WR hP hLin hVal]
  try rfl
theorem h24 : StableHlo.after (KernelIdeal.Tail.ks0 (F := Ideal)) WK (Proc.devRef .tc KernelIdeal.main_call0_call0_c) = StableHlo.after (ReferenceIdeal.Hand.tlOps0 (F := Ideal)) WR (Proc.devRef .tc ReferenceIdeal.main_call1_call0_c) :=
  by
  have eK := final_nullary (KernelIdeal.Tail.writes_ks0 (F := Ideal)) WK 29 (rest := (KernelIdeal.Tail.ks0 (F := Ideal)).drop 30) (wrest := KernelIdeal.Tail.wr_ks0.drop 30) (y := KernelIdeal.main_call0_call0_c) rfl rfl (by decide +kernel)
  have eR := final_nullary (ReferenceIdeal.Hand.writes_tlOps0 (F := Ideal)) WR 24 (rest := (ReferenceIdeal.Hand.tlOps0 (F := Ideal)).drop 25) (wrest := ReferenceIdeal.Hand.wr_tlOps0.drop 25) (y := ReferenceIdeal.main_call1_call0_c) rfl rfl (by decide +kernel)
  rw [eK, eR]
  try rfl
theorem h25 : StableHlo.after (KernelIdeal.Tail.ks0 (F := Ideal)) WK (Proc.devRef .tc KernelIdeal.main_call0_call0_v0) = StableHlo.after (ReferenceIdeal.Hand.tlOps0 (F := Ideal)) WR (Proc.devRef .tc ReferenceIdeal.main_call1_call0_v0) :=
  by
  have eK := final_unary (KernelIdeal.Tail.writes_ks0 (F := Ideal)) WK 30 (rest := (KernelIdeal.Tail.ks0 (F := Ideal)).drop 31) (wrest := KernelIdeal.Tail.wr_ks0.drop 31) (y := KernelIdeal.main_call0_call0_v0) (x := KernelIdeal.main_call0_call0_c) rfl rfl (by decide +kernel) (by decide +kernel)
  have eR := final_unary (ReferenceIdeal.Hand.writes_tlOps0 (F := Ideal)) WR 25 (rest := (ReferenceIdeal.Hand.tlOps0 (F := Ideal)).drop 26) (wrest := ReferenceIdeal.Hand.wr_tlOps0.drop 26) (y := ReferenceIdeal.main_call1_call0_v0) (x := ReferenceIdeal.main_call1_call0_c) rfl rfl (by decide +kernel) (by decide +kernel)
  rw [eK, eR, h24 WK WR hP hLin hVal]
  try rfl
theorem h26 : StableHlo.after (KernelIdeal.Tail.ks0 (F := Ideal)) WK (Proc.devRef .tc KernelIdeal.main_v88) = StableHlo.after (ReferenceIdeal.Hand.tlOps0 (F := Ideal)) WR (Proc.devRef .tc ReferenceIdeal.main_v62) :=
  by
  have eK := final_binary (KernelIdeal.Tail.writes_ks0 (F := Ideal)) WK 31 (rest := (KernelIdeal.Tail.ks0 (F := Ideal)).drop 32) (wrest := KernelIdeal.Tail.wr_ks0.drop 32) (y := KernelIdeal.main_v88) (a := KernelIdeal.main_v87) (b := KernelIdeal.main_call0_call0_v0) rfl rfl (by decide +kernel) (by decide +kernel) (by decide +kernel)
  have eR := final_binary (ReferenceIdeal.Hand.writes_tlOps0 (F := Ideal)) WR 26 (rest := (ReferenceIdeal.Hand.tlOps0 (F := Ideal)).drop 27) (wrest := ReferenceIdeal.Hand.wr_tlOps0.drop 27) (y := ReferenceIdeal.main_v62) (a := ReferenceIdeal.main_v61) (b := ReferenceIdeal.main_call1_call0_v0) rfl rfl (by decide +kernel) (by decide +kernel) (by decide +kernel)
  rw [eK, eR, h23 WK WR hP hLin hVal, h25 WK WR hP hLin hVal]
  try rfl
theorem h27 : StableHlo.after (KernelIdeal.Tail.ks0 (F := Ideal)) WK (Proc.devRef .tc KernelIdeal.main_c_40) = StableHlo.after (ReferenceIdeal.Hand.tlOps0 (F := Ideal)) WR (Proc.devRef .tc ReferenceIdeal.main_c_20) :=
  by
  have eK := final_nullary (KernelIdeal.Tail.writes_ks0 (F := Ideal)) WK 32 (rest := (KernelIdeal.Tail.ks0 (F := Ideal)).drop 33) (wrest := KernelIdeal.Tail.wr_ks0.drop 33) (y := KernelIdeal.main_c_40) rfl rfl (by decide +kernel)
  have eR := final_nullary (ReferenceIdeal.Hand.writes_tlOps0 (F := Ideal)) WR 27 (rest := (ReferenceIdeal.Hand.tlOps0 (F := Ideal)).drop 28) (wrest := ReferenceIdeal.Hand.wr_tlOps0.drop 28) (y := ReferenceIdeal.main_c_20) rfl rfl (by decide +kernel)
  rw [eK, eR]
  try rfl
theorem h28 : StableHlo.after (KernelIdeal.Tail.ks0 (F := Ideal)) WK (Proc.devRef .tc KernelIdeal.main_v89) = StableHlo.after (ReferenceIdeal.Hand.tlOps0 (F := Ideal)) WR (Proc.devRef .tc ReferenceIdeal.main_v63) :=
  by
  have eK := final_unary (KernelIdeal.Tail.writes_ks0 (F := Ideal)) WK 33 (rest := (KernelIdeal.Tail.ks0 (F := Ideal)).drop 34) (wrest := KernelIdeal.Tail.wr_ks0.drop 34) (y := KernelIdeal.main_v89) (x := KernelIdeal.main_c_40) rfl rfl (by decide +kernel) (by decide +kernel)
  have eR := final_unary (ReferenceIdeal.Hand.writes_tlOps0 (F := Ideal)) WR 28 (rest := (ReferenceIdeal.Hand.tlOps0 (F := Ideal)).drop 29) (wrest := ReferenceIdeal.Hand.wr_tlOps0.drop 29) (y := ReferenceIdeal.main_v63) (x := ReferenceIdeal.main_c_20) rfl rfl (by decide +kernel) (by decide +kernel)
  rw [eK, eR, h27 WK WR hP hLin hVal]
  try rfl
theorem h29 : StableHlo.after (KernelIdeal.Tail.ks0 (F := Ideal)) WK (Proc.devRef .tc KernelIdeal.main_v90) = StableHlo.after (ReferenceIdeal.Hand.tlOps0 (F := Ideal)) WR (Proc.devRef .tc ReferenceIdeal.main_v64) :=
  by
  have eK := final_binary (KernelIdeal.Tail.writes_ks0 (F := Ideal)) WK 34 (rest := (KernelIdeal.Tail.ks0 (F := Ideal)).drop 35) (wrest := KernelIdeal.Tail.wr_ks0.drop 35) (y := KernelIdeal.main_v90) (a := KernelIdeal.main_v88) (b := KernelIdeal.main_v89) rfl rfl (by decide +kernel) (by decide +kernel) (by decide +kernel)
  have eR := final_binary (ReferenceIdeal.Hand.writes_tlOps0 (F := Ideal)) WR 29 (rest := (ReferenceIdeal.Hand.tlOps0 (F := Ideal)).drop 30) (wrest := ReferenceIdeal.Hand.wr_tlOps0.drop 30) (y := ReferenceIdeal.main_v64) (a := ReferenceIdeal.main_v62) (b := ReferenceIdeal.main_v63) rfl rfl (by decide +kernel) (by decide +kernel) (by decide +kernel)
  rw [eK, eR, h26 WK WR hP hLin hVal, h28 WK WR hP hLin hVal]
  try rfl
theorem h30 : StableHlo.after (KernelIdeal.Tail.ks0 (F := Ideal)) WK (Proc.devRef .tc KernelIdeal.main_c_41) = StableHlo.after (ReferenceIdeal.Hand.tlOps0 (F := Ideal)) WR (Proc.devRef .tc ReferenceIdeal.main_c_21) :=
  by
  have eK := final_nullary (KernelIdeal.Tail.writes_ks0 (F := Ideal)) WK 35 (rest := (KernelIdeal.Tail.ks0 (F := Ideal)).drop 36) (wrest := KernelIdeal.Tail.wr_ks0.drop 36) (y := KernelIdeal.main_c_41) rfl rfl (by decide +kernel)
  have eR := final_nullary (ReferenceIdeal.Hand.writes_tlOps0 (F := Ideal)) WR 30 (rest := (ReferenceIdeal.Hand.tlOps0 (F := Ideal)).drop 31) (wrest := ReferenceIdeal.Hand.wr_tlOps0.drop 31) (y := ReferenceIdeal.main_c_21) rfl rfl (by decide +kernel)
  rw [eK, eR]
  try rfl
theorem h31 : StableHlo.after (KernelIdeal.Tail.ks0 (F := Ideal)) WK (Proc.devRef .tc KernelIdeal.main_v91) = StableHlo.after (ReferenceIdeal.Hand.tlOps0 (F := Ideal)) WR (Proc.devRef .tc ReferenceIdeal.main_v65) :=
  by
  have eK := final_unary (KernelIdeal.Tail.writes_ks0 (F := Ideal)) WK 36 (rest := (KernelIdeal.Tail.ks0 (F := Ideal)).drop 37) (wrest := KernelIdeal.Tail.wr_ks0.drop 37) (y := KernelIdeal.main_v91) (x := KernelIdeal.main_c_41) rfl rfl (by decide +kernel) (by decide +kernel)
  have eR := final_unary (ReferenceIdeal.Hand.writes_tlOps0 (F := Ideal)) WR 31 (rest := (ReferenceIdeal.Hand.tlOps0 (F := Ideal)).drop 32) (wrest := ReferenceIdeal.Hand.wr_tlOps0.drop 32) (y := ReferenceIdeal.main_v65) (x := ReferenceIdeal.main_c_21) rfl rfl (by decide +kernel) (by decide +kernel)
  rw [eK, eR, h30 WK WR hP hLin hVal]
  try rfl
theorem h32 : StableHlo.after (KernelIdeal.Tail.ks0 (F := Ideal)) WK (Proc.devRef .tc KernelIdeal.main_c_42) = StableHlo.after (ReferenceIdeal.Hand.tlOps0 (F := Ideal)) WR (Proc.devRef .tc ReferenceIdeal.main_c_22) :=
  by
  have eK := final_nullary (KernelIdeal.Tail.writes_ks0 (F := Ideal)) WK 37 (rest := (KernelIdeal.Tail.ks0 (F := Ideal)).drop 38) (wrest := KernelIdeal.Tail.wr_ks0.drop 38) (y := KernelIdeal.main_c_42) rfl rfl (by decide +kernel)
  have eR := final_nullary (ReferenceIdeal.Hand.writes_tlOps0 (F := Ideal)) WR 32 (rest := (ReferenceIdeal.Hand.tlOps0 (F := Ideal)).drop 33) (wrest := ReferenceIdeal.Hand.wr_tlOps0.drop 33) (y := ReferenceIdeal.main_c_22) rfl rfl (by decide +kernel)
  rw [eK, eR]
  try rfl
theorem h33 : StableHlo.after (KernelIdeal.Tail.ks0 (F := Ideal)) WK (Proc.devRef .tc KernelIdeal.main_call1_v0) = StableHlo.after (ReferenceIdeal.Hand.tlOps0 (F := Ideal)) WR (Proc.devRef .tc ReferenceIdeal.main_call2_v0) :=
  by
  have eK := final_unary (KernelIdeal.Tail.writes_ks0 (F := Ideal)) WK 38 (rest := (KernelIdeal.Tail.ks0 (F := Ideal)).drop 39) (wrest := KernelIdeal.Tail.wr_ks0.drop 39) (y := KernelIdeal.main_call1_v0) (x := KernelIdeal.main_c_42) rfl rfl (by decide +kernel) (by decide +kernel)
  have eR := final_unary (ReferenceIdeal.Hand.writes_tlOps0 (F := Ideal)) WR 33 (rest := (ReferenceIdeal.Hand.tlOps0 (F := Ideal)).drop 34) (wrest := ReferenceIdeal.Hand.wr_tlOps0.drop 34) (y := ReferenceIdeal.main_call2_v0) (x := ReferenceIdeal.main_c_22) rfl rfl (by decide +kernel) (by decide +kernel)
  rw [eK, eR, h32 WK WR hP hLin hVal]
  try rfl
theorem h34 : StableHlo.after (KernelIdeal.Tail.ks0 (F := Ideal)) WK (Proc.devRef .tc KernelIdeal.main_call1_v1) = StableHlo.after (ReferenceIdeal.Hand.tlOps0 (F := Ideal)) WR (Proc.devRef .tc ReferenceIdeal.main_call2_v1) :=
  by
  have eK := final_unary (KernelIdeal.Tail.writes_ks0 (F := Ideal)) WK 39 (rest := (KernelIdeal.Tail.ks0 (F := Ideal)).drop 40) (wrest := KernelIdeal.Tail.wr_ks0.drop 40) (y := KernelIdeal.main_call1_v1) (x := KernelIdeal.main_call1_v0) rfl rfl (by decide +kernel) (by decide +kernel)
  have eR := final_unary (ReferenceIdeal.Hand.writes_tlOps0 (F := Ideal)) WR 34 (rest := (ReferenceIdeal.Hand.tlOps0 (F := Ideal)).drop 35) (wrest := ReferenceIdeal.Hand.wr_tlOps0.drop 35) (y := ReferenceIdeal.main_call2_v1) (x := ReferenceIdeal.main_call2_v0) rfl rfl (by decide +kernel) (by decide +kernel)
  rw [eK, eR, h33 WK WR hP hLin hVal]
  try rfl
theorem h35 : StableHlo.after (KernelIdeal.Tail.ks0 (F := Ideal)) WK (Proc.devRef .tc KernelIdeal.main_v92) = StableHlo.after (ReferenceIdeal.Hand.tlOps0 (F := Ideal)) WR (Proc.devRef .tc ReferenceIdeal.main_v66) :=
  by
  have eK := final_ternary (KernelIdeal.Tail.writes_ks0 (F := Ideal)) WK 40 (rest := (KernelIdeal.Tail.ks0 (F := Ideal)).drop 41) (wrest := KernelIdeal.Tail.wr_ks0.drop 41) (y := KernelIdeal.main_v92) (c := KernelIdeal.main_v86) (a := KernelIdeal.main_v66) (b := KernelIdeal.main_call1_v1) rfl rfl (by decide +kernel) (by decide +kernel) (by decide +kernel) (by decide +kernel)
  have eR := final_ternary (ReferenceIdeal.Hand.writes_tlOps0 (F := Ideal)) WR 35 (rest := (ReferenceIdeal.Hand.tlOps0 (F := Ideal)).drop 36) (wrest := ReferenceIdeal.Hand.wr_tlOps0.drop 36) (y := ReferenceIdeal.main_v66) (c := ReferenceIdeal.main_v60) (a := ReferenceIdeal.main_v42) (b := ReferenceIdeal.main_call2_v1) rfl rfl (by decide +kernel) (by decide +kernel) (by decide +kernel) (by decide +kernel)
  rw [eK, eR, h22 WK WR hP hLin hVal, hLin, h34 WK WR hP hLin hVal]
  try rfl
theorem h36 : StableHlo.after (KernelIdeal.Tail.ks0 (F := Ideal)) WK (Proc.devRef .tc KernelIdeal.main_c_43) = StableHlo.after (ReferenceIdeal.Hand.tlOps0 (F := Ideal)) WR (Proc.devRef .tc ReferenceIdeal.main_c_23) :=
  by
  have eK := final_nullary (KernelIdeal.Tail.writes_ks0 (F := Ideal)) WK 41 (rest := (KernelIdeal.Tail.ks0 (F := Ideal)).drop 42) (wrest := KernelIdeal.Tail.wr_ks0.drop 42) (y := KernelIdeal.main_c_43) rfl rfl (by decide +kernel)
  have eR := final_nullary (ReferenceIdeal.Hand.writes_tlOps0 (F := Ideal)) WR 36 (rest := (ReferenceIdeal.Hand.tlOps0 (F := Ideal)).drop 37) (wrest := ReferenceIdeal.Hand.wr_tlOps0.drop 37) (y := ReferenceIdeal.main_c_23) rfl rfl (by decide +kernel)
  rw [eK, eR]
  try rfl
theorem h37 : StableHlo.after (KernelIdeal.Tail.ks0 (F := Ideal)) WK (Proc.devRef .tc KernelIdeal.main_v93) = StableHlo.after (ReferenceIdeal.Hand.tlOps0 (F := Ideal)) WR (Proc.devRef .tc ReferenceIdeal.main_v67) :=
  by
  have eK := final_unary (KernelIdeal.Tail.writes_ks0 (F := Ideal)) WK 42 (rest := (KernelIdeal.Tail.ks0 (F := Ideal)).drop 43) (wrest := KernelIdeal.Tail.wr_ks0.drop 43) (y := KernelIdeal.main_v93) (x := KernelIdeal.main_c_43) rfl rfl (by decide +kernel) (by decide +kernel)
  have eR := final_unary (ReferenceIdeal.Hand.writes_tlOps0 (F := Ideal)) WR 37 (rest := (ReferenceIdeal.Hand.tlOps0 (F := Ideal)).drop 38) (wrest := ReferenceIdeal.Hand.wr_tlOps0.drop 38) (y := ReferenceIdeal.main_v67) (x := ReferenceIdeal.main_c_23) rfl rfl (by decide +kernel) (by decide +kernel)
  rw [eK, eR, h36 WK WR hP hLin hVal]
  try rfl
theorem h38 : StableHlo.after (KernelIdeal.Tail.ks0 (F := Ideal)) WK (Proc.devRef .tc KernelIdeal.main_v94) = StableHlo.after (ReferenceIdeal.Hand.tlOps0 (F := Ideal)) WR (Proc.devRef .tc ReferenceIdeal.main_v68) :=
  by
  have eK := final_binary (KernelIdeal.Tail.writes_ks0 (F := Ideal)) WK 43 (rest := (KernelIdeal.Tail.ks0 (F := Ideal)).drop 44) (wrest := KernelIdeal.Tail.wr_ks0.drop 44) (y := KernelIdeal.main_v94) (a := KernelIdeal.main_v90) (b := KernelIdeal.main_v93) rfl rfl (by decide +kernel) (by decide +kernel) (by decide +kernel)
  have eR := final_binary (ReferenceIdeal.Hand.writes_tlOps0 (F := Ideal)) WR 38 (rest := (ReferenceIdeal.Hand.tlOps0 (F := Ideal)).drop 39) (wrest := ReferenceIdeal.Hand.wr_tlOps0.drop 39) (y := ReferenceIdeal.main_v68) (a := ReferenceIdeal.main_v64) (b := ReferenceIdeal.main_v67) rfl rfl (by decide +kernel) (by decide +kernel) (by decide +kernel)
  rw [eK, eR, h29 WK WR hP hLin hVal, h37 WK WR hP hLin hVal]
  try rfl
theorem h39 : StableHlo.after (KernelIdeal.Tail.ks0 (F := Ideal)) WK (Proc.devRef .tc KernelIdeal.main_c_44) = StableHlo.after (ReferenceIdeal.Hand.tlOps0 (F := Ideal)) WR (Proc.devRef .tc ReferenceIdeal.main_c_24) :=
  by
  have eK := final_nullary (KernelIdeal.Tail.writes_ks0 (F := Ideal)) WK 44 (rest := (KernelIdeal.Tail.ks0 (F := Ideal)).drop 45) (wrest := KernelIdeal.Tail.wr_ks0.drop 45) (y := KernelIdeal.main_c_44) rfl rfl (by decide +kernel)
  have eR := final_nullary (ReferenceIdeal.Hand.writes_tlOps0 (F := Ideal)) WR 39 (rest := (ReferenceIdeal.Hand.tlOps0 (F := Ideal)).drop 40) (wrest := ReferenceIdeal.Hand.wr_tlOps0.drop 40) (y := ReferenceIdeal.main_c_24) rfl rfl (by decide +kernel)
  rw [eK, eR]
  try rfl
theorem h40 : StableHlo.after (KernelIdeal.Tail.ks0 (F := Ideal)) WK (Proc.devRef .tc KernelIdeal.main_call2_v0) = StableHlo.after (ReferenceIdeal.Hand.tlOps0 (F := Ideal)) WR (Proc.devRef .tc ReferenceIdeal.main_call3_v0) :=
  by
  have eK := final_unary (KernelIdeal.Tail.writes_ks0 (F := Ideal)) WK 45 (rest := (KernelIdeal.Tail.ks0 (F := Ideal)).drop 46) (wrest := KernelIdeal.Tail.wr_ks0.drop 46) (y := KernelIdeal.main_call2_v0) (x := KernelIdeal.main_c_44) rfl rfl (by decide +kernel) (by decide +kernel)
  have eR := final_unary (ReferenceIdeal.Hand.writes_tlOps0 (F := Ideal)) WR 40 (rest := (ReferenceIdeal.Hand.tlOps0 (F := Ideal)).drop 41) (wrest := ReferenceIdeal.Hand.wr_tlOps0.drop 41) (y := ReferenceIdeal.main_call3_v0) (x := ReferenceIdeal.main_c_24) rfl rfl (by decide +kernel) (by decide +kernel)
  rw [eK, eR, h39 WK WR hP hLin hVal]
  try rfl
theorem h41 : StableHlo.after (KernelIdeal.Tail.ks0 (F := Ideal)) WK (Proc.devRef .tc KernelIdeal.main_call2_v1) = StableHlo.after (ReferenceIdeal.Hand.tlOps0 (F := Ideal)) WR (Proc.devRef .tc ReferenceIdeal.main_call3_v1) :=
  by
  have eK := final_unary (KernelIdeal.Tail.writes_ks0 (F := Ideal)) WK 46 (rest := (KernelIdeal.Tail.ks0 (F := Ideal)).drop 47) (wrest := KernelIdeal.Tail.wr_ks0.drop 47) (y := KernelIdeal.main_call2_v1) (x := KernelIdeal.main_call2_v0) rfl rfl (by decide +kernel) (by decide +kernel)
  have eR := final_unary (ReferenceIdeal.Hand.writes_tlOps0 (F := Ideal)) WR 41 (rest := (ReferenceIdeal.Hand.tlOps0 (F := Ideal)).drop 42) (wrest := ReferenceIdeal.Hand.wr_tlOps0.drop 42) (y := ReferenceIdeal.main_call3_v1) (x := ReferenceIdeal.main_call3_v0) rfl rfl (by decide +kernel) (by decide +kernel)
  rw [eK, eR, h40 WK WR hP hLin hVal]
  try rfl
theorem h42 : StableHlo.after (KernelIdeal.Tail.ks0 (F := Ideal)) WK (Proc.devRef .tc KernelIdeal.main_v95) = StableHlo.after (ReferenceIdeal.Hand.tlOps0 (F := Ideal)) WR (Proc.devRef .tc ReferenceIdeal.main_v69) :=
  by
  have eK := final_ternary (KernelIdeal.Tail.writes_ks0 (F := Ideal)) WK 47 (rest := (KernelIdeal.Tail.ks0 (F := Ideal)).drop 48) (wrest := KernelIdeal.Tail.wr_ks0.drop 48) (y := KernelIdeal.main_v95) (c := KernelIdeal.main_v86) (a := KernelIdeal.main_v94) (b := KernelIdeal.main_call2_v1) rfl rfl (by decide +kernel) (by decide +kernel) (by decide +kernel) (by decide +kernel)
  have eR := final_ternary (ReferenceIdeal.Hand.writes_tlOps0 (F := Ideal)) WR 42 (rest := (ReferenceIdeal.Hand.tlOps0 (F := Ideal)).drop 43) (wrest := ReferenceIdeal.Hand.wr_tlOps0.drop 43) (y := ReferenceIdeal.main_v69) (c := ReferenceIdeal.main_v60) (a := ReferenceIdeal.main_v68) (b := ReferenceIdeal.main_call3_v1) rfl rfl (by decide +kernel) (by decide +kernel) (by decide +kernel) (by decide +kernel)
  rw [eK, eR, h22 WK WR hP hLin hVal, h38 WK WR hP hLin hVal, h41 WK WR hP hLin hVal]
  try rfl
theorem h43 : StableHlo.after (KernelIdeal.Tail.ks0 (F := Ideal)) WK (Proc.devRef .tc KernelIdeal.main_c_45) = StableHlo.after (ReferenceIdeal.Hand.tlOps0 (F := Ideal)) WR (Proc.devRef .tc ReferenceIdeal.main_c_25) :=
  by
  have eK := final_nullary (KernelIdeal.Tail.writes_ks0 (F := Ideal)) WK 48 (rest := (KernelIdeal.Tail.ks0 (F := Ideal)).drop 49) (wrest := KernelIdeal.Tail.wr_ks0.drop 49) (y := KernelIdeal.main_c_45) rfl rfl (by decide +kernel)
  have eR := final_nullary (ReferenceIdeal.Hand.writes_tlOps0 (F := Ideal)) WR 43 (rest := (ReferenceIdeal.Hand.tlOps0 (F := Ideal)).drop 44) (wrest := ReferenceIdeal.Hand.wr_tlOps0.drop 44) (y := ReferenceIdeal.main_c_25) rfl rfl (by decide +kernel)
  rw [eK, eR]
  try rfl
theorem h44 : StableHlo.after (KernelIdeal.Tail.ks0 (F := Ideal)) WK (Proc.devRef .tc KernelIdeal.main_v96) = StableHlo.after (ReferenceIdeal.Hand.tlOps0 (F := Ideal)) WR (Proc.devRef .tc ReferenceIdeal.main_v70) :=
  by
  have eK := final_unary (KernelIdeal.Tail.writes_ks0 (F := Ideal)) WK 49 (rest := (KernelIdeal.Tail.ks0 (F := Ideal)).drop 50) (wrest := KernelIdeal.Tail.wr_ks0.drop 50) (y := KernelIdeal.main_v96) (x := KernelIdeal.main_c_45) rfl rfl (by decide +kernel) (by decide +kernel)
  have eR := final_unary (ReferenceIdeal.Hand.writes_tlOps0 (F := Ideal)) WR 44 (rest := (ReferenceIdeal.Hand.tlOps0 (F := Ideal)).drop 45) (wrest := ReferenceIdeal.Hand.wr_tlOps0.drop 45) (y := ReferenceIdeal.main_v70) (x := ReferenceIdeal.main_c_25) rfl rfl (by decide +kernel) (by decide +kernel)
  rw [eK, eR, h43 WK WR hP hLin hVal]
  try rfl
theorem h45 : StableHlo.after (KernelIdeal.Tail.ks0 (F := Ideal)) WK (Proc.devRef .tc KernelIdeal.main_v97) = StableHlo.after (ReferenceIdeal.Hand.tlOps0 (F := Ideal)) WR (Proc.devRef .tc ReferenceIdeal.main_v71) :=
  by
  have eK := final_binary (KernelIdeal.Tail.writes_ks0 (F := Ideal)) WK 50 (rest := (KernelIdeal.Tail.ks0 (F := Ideal)).drop 51) (wrest := KernelIdeal.Tail.wr_ks0.drop 51) (y := KernelIdeal.main_v97) (a := KernelIdeal.main_v92) (b := KernelIdeal.main_v96) rfl rfl (by decide +kernel) (by decide +kernel) (by decide +kernel)
  have eR := final_binary (ReferenceIdeal.Hand.writes_tlOps0 (F := Ideal)) WR 45 (rest := (ReferenceIdeal.Hand.tlOps0 (F := Ideal)).drop 46) (wrest := ReferenceIdeal.Hand.wr_tlOps0.drop 46) (y := ReferenceIdeal.main_v71) (a := ReferenceIdeal.main_v66) (b := ReferenceIdeal.main_v70) rfl rfl (by decide +kernel) (by decide +kernel) (by decide +kernel)
  rw [eK, eR, h35 WK WR hP hLin hVal, h44 WK WR hP hLin hVal]
  try rfl
theorem h46 : StableHlo.after (KernelIdeal.Tail.ks0 (F := Ideal)) WK (Proc.devRef .tc KernelIdeal.main_c_46) = StableHlo.after (ReferenceIdeal.Hand.tlOps0 (F := Ideal)) WR (Proc.devRef .tc ReferenceIdeal.main_c_26) :=
  by
  have eK := final_nullary (KernelIdeal.Tail.writes_ks0 (F := Ideal)) WK 51 (rest := (KernelIdeal.Tail.ks0 (F := Ideal)).drop 52) (wrest := KernelIdeal.Tail.wr_ks0.drop 52) (y := KernelIdeal.main_c_46) rfl rfl (by decide +kernel)
  have eR := final_nullary (ReferenceIdeal.Hand.writes_tlOps0 (F := Ideal)) WR 46 (rest := (ReferenceIdeal.Hand.tlOps0 (F := Ideal)).drop 47) (wrest := ReferenceIdeal.Hand.wr_tlOps0.drop 47) (y := ReferenceIdeal.main_c_26) rfl rfl (by decide +kernel)
  rw [eK, eR]
  try rfl
theorem h47 : StableHlo.after (KernelIdeal.Tail.ks0 (F := Ideal)) WK (Proc.devRef .tc KernelIdeal.main_v98) = StableHlo.after (ReferenceIdeal.Hand.tlOps0 (F := Ideal)) WR (Proc.devRef .tc ReferenceIdeal.main_v72) :=
  by
  have eK := final_unary (KernelIdeal.Tail.writes_ks0 (F := Ideal)) WK 52 (rest := (KernelIdeal.Tail.ks0 (F := Ideal)).drop 53) (wrest := KernelIdeal.Tail.wr_ks0.drop 53) (y := KernelIdeal.main_v98) (x := KernelIdeal.main_c_46) rfl rfl (by decide +kernel) (by decide +kernel)
  have eR := final_unary (ReferenceIdeal.Hand.writes_tlOps0 (F := Ideal)) WR 47 (rest := (ReferenceIdeal.Hand.tlOps0 (F := Ideal)).drop 48) (wrest := ReferenceIdeal.Hand.wr_tlOps0.drop 48) (y := ReferenceIdeal.main_v72) (x := ReferenceIdeal.main_c_26) rfl rfl (by decide +kernel) (by decide +kernel)
  rw [eK, eR, h46 WK WR hP hLin hVal]
  try rfl
theorem h48 : StableHlo.after (KernelIdeal.Tail.ks0 (F := Ideal)) WK (Proc.devRef .tc KernelIdeal.main_v99) = StableHlo.after (ReferenceIdeal.Hand.tlOps0 (F := Ideal)) WR (Proc.devRef .tc ReferenceIdeal.main_v73) :=
  by
  have eK := final_binary (KernelIdeal.Tail.writes_ks0 (F := Ideal)) WK 53 (rest := (KernelIdeal.Tail.ks0 (F := Ideal)).drop 54) (wrest := KernelIdeal.Tail.wr_ks0.drop 54) (y := KernelIdeal.main_v99) (a := KernelIdeal.main_v92) (b := KernelIdeal.main_v98) rfl rfl (by decide +kernel) (by decide +kernel) (by decide +kernel)
  have eR := final_binary (ReferenceIdeal.Hand.writes_tlOps0 (F := Ideal)) WR 48 (rest := (ReferenceIdeal.Hand.tlOps0 (F := Ideal)).drop 49) (wrest := ReferenceIdeal.Hand.wr_tlOps0.drop 49) (y := ReferenceIdeal.main_v73) (a := ReferenceIdeal.main_v66) (b := ReferenceIdeal.main_v72) rfl rfl (by decide +kernel) (by decide +kernel) (by decide +kernel)
  rw [eK, eR, h35 WK WR hP hLin hVal, h47 WK WR hP hLin hVal]
  try rfl
theorem h49 : StableHlo.after (KernelIdeal.Tail.ks0 (F := Ideal)) WK (Proc.devRef .tc KernelIdeal.main_v100) = StableHlo.after (ReferenceIdeal.Hand.tlOps0 (F := Ideal)) WR (Proc.devRef .tc ReferenceIdeal.main_v74) :=
  by
  have eK := final_ternary (KernelIdeal.Tail.writes_ks0 (F := Ideal)) WK 54 (rest := (KernelIdeal.Tail.ks0 (F := Ideal)).drop 55) (wrest := KernelIdeal.Tail.wr_ks0.drop 55) (y := KernelIdeal.main_v100) (c := KernelIdeal.main_v97) (a := KernelIdeal.main_v99) (b := KernelIdeal.main_v92) rfl rfl (by decide +kernel) (by decide +kernel) (by decide +kernel) (by decide +kernel)
  have eR := final_ternary (ReferenceIdeal.Hand.writes_tlOps0 (F := Ideal)) WR 49 (rest := (ReferenceIdeal.Hand.tlOps0 (F := Ideal)).drop 50) (wrest := ReferenceIdeal.Hand.wr_tlOps0.drop 50) (y := ReferenceIdeal.main_v74) (c := ReferenceIdeal.main_v71) (a := ReferenceIdeal.main_v73) (b := ReferenceIdeal.main_v66) rfl rfl (by decide +kernel) (by decide +kernel) (by decide +kernel) (by decide +kernel)
  rw [eK, eR, h45 WK WR hP hLin hVal, h48 WK WR hP hLin hVal, h35 WK WR hP hLin hVal]
  try rfl
theorem h50 : StableHlo.after (KernelIdeal.Tail.ks0 (F := Ideal)) WK (Proc.devRef .tc KernelIdeal.main_v101) = StableHlo.after (ReferenceIdeal.Hand.tlOps0 (F := Ideal)) WR (Proc.devRef .tc ReferenceIdeal.main_v75) :=
  by
  have eK := final_unary (KernelIdeal.Tail.writes_ks0 (F := Ideal)) WK 55 (rest := (KernelIdeal.Tail.ks0 (F := Ideal)).drop 56) (wrest := KernelIdeal.Tail.wr_ks0.drop 56) (y := KernelIdeal.main_v101) (x := KernelIdeal.main_v100) rfl rfl (by decide +kernel) (by decide +kernel)
  have eR := final_unary (ReferenceIdeal.Hand.writes_tlOps0 (F := Ideal)) WR 50 (rest := (ReferenceIdeal.Hand.tlOps0 (F := Ideal)).drop 51) (wrest := ReferenceIdeal.Hand.wr_tlOps0.drop 51) (y := ReferenceIdeal.main_v75) (x := ReferenceIdeal.main_v74) rfl rfl (by decide +kernel) (by decide +kernel)
  rw [eK, eR, h49 WK WR hP hLin hVal]
  try rfl
theorem h51 : StableHlo.after (KernelIdeal.Tail.ks0 (F := Ideal)) WK (Proc.devRef .tc KernelIdeal.main_v102) = StableHlo.after (ReferenceIdeal.Hand.tlOps0 (F := Ideal)) WR (Proc.devRef .tc ReferenceIdeal.main_v76) :=
  by
  have eK := final_ternary (KernelIdeal.Tail.writes_ks0 (F := Ideal)) WK 56 (rest := (KernelIdeal.Tail.ks0 (F := Ideal)).drop 57) (wrest := KernelIdeal.Tail.wr_ks0.drop 57) (y := KernelIdeal.main_v102) (c := KernelIdeal.main_v91) (a := KernelIdeal.main_v101) (b := KernelIdeal.main_v95) rfl rfl (by decide +kernel) (by decide +kernel) (by decide +kernel) (by decide +kernel)
  have eR := final_ternary (ReferenceIdeal.Hand.writes_tlOps0 (F := Ideal)) WR 51 (rest := (ReferenceIdeal.Hand.tlOps0 (F := Ideal)).drop 52) (wrest := ReferenceIdeal.Hand.wr_tlOps0.drop 52) (y := ReferenceIdeal.main_v76) (c := ReferenceIdeal.main_v65) (a := ReferenceIdeal.main_v75) (b := ReferenceIdeal.main_v69) rfl rfl (by decide +kernel) (by decide +kernel) (by decide +kernel) (by decide +kernel)
  rw [eK, eR, h31 WK WR hP hLin hVal, h50 WK WR hP hLin hVal, h42 WK WR hP hLin hVal]
  try rfl
theorem h52 : StableHlo.after (KernelIdeal.Tail.ks0 (F := Ideal)) WK (Proc.devRef .tc KernelIdeal.main_c_47) = StableHlo.after (ReferenceIdeal.Hand.tlOps0 (F := Ideal)) WR (Proc.devRef .tc ReferenceIdeal.main_c_27) :=
  by
  have eK := final_nullary (KernelIdeal.Tail.writes_ks0 (F := Ideal)) WK 57 (rest := (KernelIdeal.Tail.ks0 (F := Ideal)).drop 58) (wrest := KernelIdeal.Tail.wr_ks0.drop 58) (y := KernelIdeal.main_c_47) rfl rfl (by decide +kernel)
  have eR := final_nullary (ReferenceIdeal.Hand.writes_tlOps0 (F := Ideal)) WR 52 (rest := (ReferenceIdeal.Hand.tlOps0 (F := Ideal)).drop 53) (wrest := ReferenceIdeal.Hand.wr_tlOps0.drop 53) (y := ReferenceIdeal.main_c_27) rfl rfl (by decide +kernel)
  rw [eK, eR]
  try rfl
theorem h53 : StableHlo.after (KernelIdeal.Tail.ks0 (F := Ideal)) WK (Proc.devRef .tc KernelIdeal.main_v103) = StableHlo.after (ReferenceIdeal.Hand.tlOps0 (F := Ideal)) WR (Proc.devRef .tc ReferenceIdeal.main_v77) :=
  by
  have eK := final_unary (KernelIdeal.Tail.writes_ks0 (F := Ideal)) WK 58 (rest := (KernelIdeal.Tail.ks0 (F := Ideal)).drop 59) (wrest := KernelIdeal.Tail.wr_ks0.drop 59) (y := KernelIdeal.main_v103) (x := KernelIdeal.main_c_47) rfl rfl (by decide +kernel) (by decide +kernel)
  have eR := final_unary (ReferenceIdeal.Hand.writes_tlOps0 (F := Ideal)) WR 53 (rest := (ReferenceIdeal.Hand.tlOps0 (F := Ideal)).drop 54) (wrest := ReferenceIdeal.Hand.wr_tlOps0.drop 54) (y := ReferenceIdeal.main_v77) (x := ReferenceIdeal.main_c_27) rfl rfl (by decide +kernel) (by decide +kernel)
  rw [eK, eR, h52 WK WR hP hLin hVal]
  try rfl
theorem h54 : StableHlo.after (KernelIdeal.Tail.ks0 (F := Ideal)) WK (Proc.devRef .tc KernelIdeal.main_v104) = StableHlo.after (ReferenceIdeal.Hand.tlOps0 (F := Ideal)) WR (Proc.devRef .tc ReferenceIdeal.main_v78) :=
  by
  have eK := final_binary (KernelIdeal.Tail.writes_ks0 (F := Ideal)) WK 59 (rest := (KernelIdeal.Tail.ks0 (F := Ideal)).drop 60) (wrest := KernelIdeal.Tail.wr_ks0.drop 60) (y := KernelIdeal.main_v104) (a := KernelIdeal.main_v66) (b := KernelIdeal.main_v103) rfl rfl (by decide +kernel) (by decide +kernel) (by decide +kernel)
  have eR := final_binary (ReferenceIdeal.Hand.writes_tlOps0 (F := Ideal)) WR 54 (rest := (ReferenceIdeal.Hand.tlOps0 (F := Ideal)).drop 55) (wrest := ReferenceIdeal.Hand.wr_tlOps0.drop 55) (y := ReferenceIdeal.main_v78) (a := ReferenceIdeal.main_v42) (b := ReferenceIdeal.main_v77) rfl rfl (by decide +kernel) (by decide +kernel) (by decide +kernel)
  rw [eK, eR, hLin, h53 WK WR hP hLin hVal]
  try rfl
theorem h55 : StableHlo.after (KernelIdeal.Tail.ks0 (F := Ideal)) WK (Proc.devRef .tc KernelIdeal.main_c_48) = StableHlo.after (ReferenceIdeal.Hand.tlOps0 (F := Ideal)) WR (Proc.devRef .tc ReferenceIdeal.main_c_28) :=
  by
  have eK := final_nullary (KernelIdeal.Tail.writes_ks0 (F := Ideal)) WK 60 (rest := (KernelIdeal.Tail.ks0 (F := Ideal)).drop 61) (wrest := KernelIdeal.Tail.wr_ks0.drop 61) (y := KernelIdeal.main_c_48) rfl rfl (by decide +kernel)
  have eR := final_nullary (ReferenceIdeal.Hand.writes_tlOps0 (F := Ideal)) WR 55 (rest := (ReferenceIdeal.Hand.tlOps0 (F := Ideal)).drop 56) (wrest := ReferenceIdeal.Hand.wr_tlOps0.drop 56) (y := ReferenceIdeal.main_c_28) rfl rfl (by decide +kernel)
  rw [eK, eR]
  try rfl
theorem h56 : StableHlo.after (KernelIdeal.Tail.ks0 (F := Ideal)) WK (Proc.devRef .tc KernelIdeal.main_v105) = StableHlo.after (ReferenceIdeal.Hand.tlOps0 (F := Ideal)) WR (Proc.devRef .tc ReferenceIdeal.main_v79) :=
  by
  have eK := final_unary (KernelIdeal.Tail.writes_ks0 (F := Ideal)) WK 61 (rest := (KernelIdeal.Tail.ks0 (F := Ideal)).drop 62) (wrest := KernelIdeal.Tail.wr_ks0.drop 62) (y := KernelIdeal.main_v105) (x := KernelIdeal.main_c_48) rfl rfl (by decide +kernel) (by decide +kernel)
  have eR := final_unary (ReferenceIdeal.Hand.writes_tlOps0 (F := Ideal)) WR 56 (rest := (ReferenceIdeal.Hand.tlOps0 (F := Ideal)).drop 57) (wrest := ReferenceIdeal.Hand.wr_tlOps0.drop 57) (y := ReferenceIdeal.main_v79) (x := ReferenceIdeal.main_c_28) rfl rfl (by decide +kernel) (by decide +kernel)
  rw [eK, eR, h55 WK WR hP hLin hVal]
  try rfl
theorem h57 : StableHlo.after (KernelIdeal.Tail.ks0 (F := Ideal)) WK (Proc.devRef .tc KernelIdeal.main_v106) = StableHlo.after (ReferenceIdeal.Hand.tlOps0 (F := Ideal)) WR (Proc.devRef .tc ReferenceIdeal.main_v80) :=
  by
  have eK := final_binary (KernelIdeal.Tail.writes_ks0 (F := Ideal)) WK 62 (rest := (KernelIdeal.Tail.ks0 (F := Ideal)).drop 63) (wrest := KernelIdeal.Tail.wr_ks0.drop 63) (y := KernelIdeal.main_v106) (a := KernelIdeal.main_v66) (b := KernelIdeal.main_v105) rfl rfl (by decide +kernel) (by decide +kernel) (by decide +kernel)
  have eR := final_binary (ReferenceIdeal.Hand.writes_tlOps0 (F := Ideal)) WR 57 (rest := (ReferenceIdeal.Hand.tlOps0 (F := Ideal)).drop 58) (wrest := ReferenceIdeal.Hand.wr_tlOps0.drop 58) (y := ReferenceIdeal.main_v80) (a := ReferenceIdeal.main_v42) (b := ReferenceIdeal.main_v79) rfl rfl (by decide +kernel) (by decide +kernel) (by decide +kernel)
  rw [eK, eR, hLin, h56 WK WR hP hLin hVal]
  try rfl
theorem h58 : StableHlo.after (KernelIdeal.Tail.ks0 (F := Ideal)) WK (Proc.devRef .tc KernelIdeal.main_v107) = StableHlo.after (ReferenceIdeal.Hand.tlOps0 (F := Ideal)) WR (Proc.devRef .tc ReferenceIdeal.main_v81) :=
  by
  have eK := final_ternary (KernelIdeal.Tail.writes_ks0 (F := Ideal)) WK 63 (rest := (KernelIdeal.Tail.ks0 (F := Ideal)).drop 64) (wrest := KernelIdeal.Tail.wr_ks0.drop 64) (y := KernelIdeal.main_v107) (c := KernelIdeal.main_v104) (a := KernelIdeal.main_v106) (b := KernelIdeal.main_v66) rfl rfl (by decide +kernel) (by decide +kernel) (by decide +kernel) (by decide +kernel)
  have eR := final_ternary (ReferenceIdeal.Hand.writes_tlOps0 (F := Ideal)) WR 58 (rest := (ReferenceIdeal.Hand.tlOps0 (F := Ideal)).drop 59) (wrest := ReferenceIdeal.Hand.wr_tlOps0.drop 59) (y := ReferenceIdeal.main_v81) (c := ReferenceIdeal.main_v78) (a := ReferenceIdeal.main_v80) (b := ReferenceIdeal.main_v42) rfl rfl (by decide +kernel) (by decide +kernel) (by decide +kernel) (by decide +kernel)
  rw [eK, eR, h54 WK WR hP hLin hVal, h57 WK WR hP hLin hVal, hLin]
  try rfl
theorem h59 : StableHlo.after (KernelIdeal.Tail.ks0 (F := Ideal)) WK (Proc.devRef .tc KernelIdeal.main_v108) = StableHlo.after (ReferenceIdeal.Hand.tlOps0 (F := Ideal)) WR (Proc.devRef .tc ReferenceIdeal.main_v82) :=
  by
  have eK := final_unary (KernelIdeal.Tail.writes_ks0 (F := Ideal)) WK 64 (rest := (KernelIdeal.Tail.ks0 (F := Ideal)).drop 65) (wrest := KernelIdeal.Tail.wr_ks0.drop 65) (y := KernelIdeal.main_v108) (x := KernelIdeal.main_v107) rfl rfl (by decide +kernel) (by decide +kernel)
  have eR := final_unary (ReferenceIdeal.Hand.writes_tlOps0 (F := Ideal)) WR 59 (rest := (ReferenceIdeal.Hand.tlOps0 (F := Ideal)).drop 60) (wrest := ReferenceIdeal.Hand.wr_tlOps0.drop 60) (y := ReferenceIdeal.main_v82) (x := ReferenceIdeal.main_v81) rfl rfl (by decide +kernel) (by decide +kernel)
  rw [eK, eR, h58 WK WR hP hLin hVal]
  try rfl
theorem h60 : StableHlo.after (KernelIdeal.Tail.ks0 (F := Ideal)) WK (Proc.devRef .tc KernelIdeal.main_v109) = StableHlo.after (ReferenceIdeal.Hand.tlOps0 (F := Ideal)) WR (Proc.devRef .tc ReferenceIdeal.main_v83) :=
  by
  have eK := final_binary (KernelIdeal.Tail.writes_ks0 (F := Ideal)) WK 65 (rest := (KernelIdeal.Tail.ks0 (F := Ideal)).drop 66) (wrest := KernelIdeal.Tail.wr_ks0.drop 66) (y := KernelIdeal.main_v109) (a := KernelIdeal.main_v102) (b := KernelIdeal.main_v108) rfl rfl (by decide +kernel) (by decide +kernel) (by decide +kernel)
  have eR := final_binary (ReferenceIdeal.Hand.writes_tlOps0 (F := Ideal)) WR 60 (rest := (ReferenceIdeal.Hand.tlOps0 (F := Ideal)).drop 61) (wrest := ReferenceIdeal.Hand.wr_tlOps0.drop 61) (y := ReferenceIdeal.main_v83) (a := ReferenceIdeal.main_v76) (b := ReferenceIdeal.main_v82) rfl rfl (by decide +kernel) (by decide +kernel) (by decide +kernel)
  rw [eK, eR, h51 WK WR hP hLin hVal, h59 WK WR hP hLin hVal]
  try rfl
theorem h61 : StableHlo.after (KernelIdeal.Tail.ks0 (F := Ideal)) WK (Proc.devRef .tc KernelIdeal.main_c_49) = StableHlo.after (ReferenceIdeal.Hand.tlOps0 (F := Ideal)) WR (Proc.devRef .tc ReferenceIdeal.main_c_29) :=
  by
  have eK := final_nullary (KernelIdeal.Tail.writes_ks0 (F := Ideal)) WK 66 (rest := (KernelIdeal.Tail.ks0 (F := Ideal)).drop 67) (wrest := KernelIdeal.Tail.wr_ks0.drop 67) (y := KernelIdeal.main_c_49) rfl rfl (by decide +kernel)
  have eR := final_nullary (ReferenceIdeal.Hand.writes_tlOps0 (F := Ideal)) WR 61 (rest := (ReferenceIdeal.Hand.tlOps0 (F := Ideal)).drop 62) (wrest := ReferenceIdeal.Hand.wr_tlOps0.drop 62) (y := ReferenceIdeal.main_c_29) rfl rfl (by decide +kernel)
  rw [eK, eR]
  try rfl
theorem h62 : StableHlo.after (KernelIdeal.Tail.ks0 (F := Ideal)) WK (Proc.devRef .tc KernelIdeal.main_call3_v0) = StableHlo.after (ReferenceIdeal.Hand.tlOps0 (F := Ideal)) WR (Proc.devRef .tc ReferenceIdeal.main_call4_v0) :=
  by
  have eK := final_unary (KernelIdeal.Tail.writes_ks0 (F := Ideal)) WK 67 (rest := (KernelIdeal.Tail.ks0 (F := Ideal)).drop 68) (wrest := KernelIdeal.Tail.wr_ks0.drop 68) (y := KernelIdeal.main_call3_v0) (x := KernelIdeal.main_c_49) rfl rfl (by decide +kernel) (by decide +kernel)
  have eR := final_unary (ReferenceIdeal.Hand.writes_tlOps0 (F := Ideal)) WR 62 (rest := (ReferenceIdeal.Hand.tlOps0 (F := Ideal)).drop 63) (wrest := ReferenceIdeal.Hand.wr_tlOps0.drop 63) (y := ReferenceIdeal.main_call4_v0) (x := ReferenceIdeal.main_c_29) rfl rfl (by decide +kernel) (by decide +kernel)
  rw [eK, eR, h61 WK WR hP hLin hVal]
  try rfl
theorem h63 : StableHlo.after (KernelIdeal.Tail.ks0 (F := Ideal)) WK (Proc.devRef .tc KernelIdeal.main_call3_v1) = StableHlo.after (ReferenceIdeal.Hand.tlOps0 (F := Ideal)) WR (Proc.devRef .tc ReferenceIdeal.main_call4_v1) :=
  by
  have eK := final_unary (KernelIdeal.Tail.writes_ks0 (F := Ideal)) WK 68 (rest := (KernelIdeal.Tail.ks0 (F := Ideal)).drop 69) (wrest := KernelIdeal.Tail.wr_ks0.drop 69) (y := KernelIdeal.main_call3_v1) (x := KernelIdeal.main_call3_v0) rfl rfl (by decide +kernel) (by decide +kernel)
  have eR := final_unary (ReferenceIdeal.Hand.writes_tlOps0 (F := Ideal)) WR 63 (rest := (ReferenceIdeal.Hand.tlOps0 (F := Ideal)).drop 64) (wrest := ReferenceIdeal.Hand.wr_tlOps0.drop 64) (y := ReferenceIdeal.main_call4_v1) (x := ReferenceIdeal.main_call4_v0) rfl rfl (by decide +kernel) (by decide +kernel)
  rw [eK, eR, h62 WK WR hP hLin hVal]
  try rfl
theorem h64 : StableHlo.after (KernelIdeal.Tail.ks0 (F := Ideal)) WK (Proc.devRef .tc KernelIdeal.main_v110) = StableHlo.after (ReferenceIdeal.Hand.tlOps0 (F := Ideal)) WR (Proc.devRef .tc ReferenceIdeal.main_v84) :=
  by
  have eK := final_ternary (KernelIdeal.Tail.writes_ks0 (F := Ideal)) WK 69 (rest := (KernelIdeal.Tail.ks0 (F := Ideal)).drop 70) (wrest := KernelIdeal.Tail.wr_ks0.drop 70) (y := KernelIdeal.main_v110) (c := KernelIdeal.main_v68) (a := KernelIdeal.main_v109) (b := KernelIdeal.main_call3_v1) rfl rfl (by decide +kernel) (by decide +kernel) (by decide +kernel) (by decide +kernel)
  have eR := final_ternary (ReferenceIdeal.Hand.writes_tlOps0 (F := Ideal)) WR 64 (rest := (ReferenceIdeal.Hand.tlOps0 (F := Ideal)).drop 65) (wrest := ReferenceIdeal.Hand.wr_tlOps0.drop 65) (y := ReferenceIdeal.main_v84) (c := ReferenceIdeal.main_v29) (a := ReferenceIdeal.main_v83) (b := ReferenceIdeal.main_call4_v1) rfl rfl (by decide +kernel) (by decide +kernel) (by decide +kernel) (by decide +kernel)
  rw [eK, eR, hVal, h60 WK WR hP hLin hVal, h63 WK WR hP hLin hVal]
  try rfl
theorem h65 : StableHlo.after (KernelIdeal.Tail.ks0 (F := Ideal)) WK (Proc.devRef .tc KernelIdeal.main_call4_v0) = StableHlo.after (ReferenceIdeal.Hand.tlOps0 (F := Ideal)) WR (Proc.devRef .tc ReferenceIdeal.main_call5_v0) :=
  by
  have eK := final_nullary (KernelIdeal.Tail.writes_ks0 (F := Ideal)) WK 70 (rest := (KernelIdeal.Tail.ks0 (F := Ideal)).drop 71) (wrest := KernelIdeal.Tail.wr_ks0.drop 71) (y := KernelIdeal.main_call4_v0) rfl rfl (by decide +kernel)
  have eR := final_nullary (ReferenceIdeal.Hand.writes_tlOps0 (F := Ideal)) WR 65 (rest := (ReferenceIdeal.Hand.tlOps0 (F := Ideal)).drop 66) (wrest := ReferenceIdeal.Hand.wr_tlOps0.drop 66) (y := ReferenceIdeal.main_call5_v0) rfl rfl (by decide +kernel)
  rw [eK, eR]
  try rfl
theorem h66 : StableHlo.after (KernelIdeal.Tail.ks0 (F := Ideal)) WK (Proc.devRef .tc KernelIdeal.main_call4_v1_0) = StableHlo.after (ReferenceIdeal.Hand.tlOps0 (F := Ideal)) WR (Proc.devRef .tc ReferenceIdeal.main_call5_v1_0) :=
  by
  have eK := final_binary (KernelIdeal.Tail.writes_ks0 (F := Ideal)) WK 71 (rest := (KernelIdeal.Tail.ks0 (F := Ideal)).drop 72) (wrest := KernelIdeal.Tail.wr_ks0.drop 72) (y := KernelIdeal.main_call4_v1_0) (a := KernelIdeal.main_v66) (b := KernelIdeal.main_call4_v0) rfl rfl (by decide +kernel) (by decide +kernel) (by decide +kernel)
  have eR := final_binary (ReferenceIdeal.Hand.writes_tlOps0 (F := Ideal)) WR 66 (rest := (ReferenceIdeal.Hand.tlOps0 (F := Ideal)).drop 67) (wrest := ReferenceIdeal.Hand.wr_tlOps0.drop 67) (y := ReferenceIdeal.main_call5_v1_0) (a := ReferenceIdeal.main_v42) (b := ReferenceIdeal.main_call5_v0) rfl rfl (by decide +kernel) (by decide +kernel) (by decide +kernel)
  rw [eK, eR, hLin, h65 WK WR hP hLin hVal]
  try rfl
theorem h67 : StableHlo.after (KernelIdeal.Tail.ks0 (F := Ideal)) WK (Proc.devRef .tc KernelIdeal.main_v111) = StableHlo.after (ReferenceIdeal.Hand.tlOps0 (F := Ideal)) WR (Proc.devRef .tc ReferenceIdeal.main_v85) :=
  by
  have eK := final_binary (KernelIdeal.Tail.writes_ks0 (F := Ideal)) WK 72 (rest := (KernelIdeal.Tail.ks0 (F := Ideal)).drop 73) (wrest := KernelIdeal.Tail.wr_ks0.drop 73) (y := KernelIdeal.main_v111) (a := KernelIdeal.main_v66) (b := KernelIdeal.main_call4_v0) rfl rfl (by decide +kernel) (by decide +kernel) (by decide +kernel)
  have eR := final_binary (ReferenceIdeal.Hand.writes_tlOps0 (F := Ideal)) WR 67 (rest := (ReferenceIdeal.Hand.tlOps0 (F := Ideal)).drop 68) (wrest := ReferenceIdeal.Hand.wr_tlOps0.drop 68) (y := ReferenceIdeal.main_v85) (a := ReferenceIdeal.main_v42) (b := ReferenceIdeal.main_call5_v0) rfl rfl (by decide +kernel) (by decide +kernel) (by decide +kernel)
  rw [eK, eR, hLin, h65 WK WR hP hLin hVal]
  try rfl
theorem h68 : StableHlo.after (KernelIdeal.Tail.ks0 (F := Ideal)) WK (Proc.devRef .tc KernelIdeal.main_c_50) = StableHlo.after (ReferenceIdeal.Hand.tlOps0 (F := Ideal)) WR (Proc.devRef .tc ReferenceIdeal.main_c_30) :=
  by
  have eK := final_nullary (KernelIdeal.Tail.writes_ks0 (F := Ideal)) WK 73 (rest := (KernelIdeal.Tail.ks0 (F := Ideal)).drop 74) (wrest := KernelIdeal.Tail.wr_ks0.drop 74) (y := KernelIdeal.main_c_50) rfl rfl (by decide +kernel)
  have eR := final_nullary (ReferenceIdeal.Hand.writes_tlOps0 (F := Ideal)) WR 68 (rest := (ReferenceIdeal.Hand.tlOps0 (F := Ideal)).drop 69) (wrest := ReferenceIdeal.Hand.wr_tlOps0.drop 69) (y := ReferenceIdeal.main_c_30) rfl rfl (by decide +kernel)
  rw [eK, eR]
  try rfl
theorem h69 : StableHlo.after (KernelIdeal.Tail.ks0 (F := Ideal)) WK (Proc.devRef .tc KernelIdeal.main_v112) = StableHlo.after (ReferenceIdeal.Hand.tlOps0 (F := Ideal)) WR (Proc.devRef .tc ReferenceIdeal.main_v86) :=
  by
  have eK := final_unary (KernelIdeal.Tail.writes_ks0 (F := Ideal)) WK 74 (rest := (KernelIdeal.Tail.ks0 (F := Ideal)).drop 75) (wrest := KernelIdeal.Tail.wr_ks0.drop 75) (y := KernelIdeal.main_v112) (x := KernelIdeal.main_c_50) rfl rfl (by decide +kernel) (by decide +kernel)
  have eR := final_unary (ReferenceIdeal.Hand.writes_tlOps0 (F := Ideal)) WR 69 (rest := (ReferenceIdeal.Hand.tlOps0 (F := Ideal)).drop 70) (wrest := ReferenceIdeal.Hand.wr_tlOps0.drop 70) (y := ReferenceIdeal.main_v86) (x := ReferenceIdeal.main_c_30) rfl rfl (by decide +kernel) (by decide +kernel)
  rw [eK, eR, h68 WK WR hP hLin hVal]
  try rfl
theorem h70 : StableHlo.after (KernelIdeal.Tail.ks0 (F := Ideal)) WK (Proc.devRef .tc KernelIdeal.main_v113) = StableHlo.after (ReferenceIdeal.Hand.tlOps0 (F := Ideal)) WR (Proc.devRef .tc ReferenceIdeal.main_v87) :=
  by
  have eK := final_binary (KernelIdeal.Tail.writes_ks0 (F := Ideal)) WK 75 (rest := (KernelIdeal.Tail.ks0 (F := Ideal)).drop 76) (wrest := KernelIdeal.Tail.wr_ks0.drop 76) (y := KernelIdeal.main_v113) (a := KernelIdeal.main_v111) (b := KernelIdeal.main_v112) rfl rfl (by decide +kernel) (by decide +kernel) (by decide +kernel)
  have eR := final_binary (ReferenceIdeal.Hand.writes_tlOps0 (F := Ideal)) WR 70 (rest := (ReferenceIdeal.Hand.tlOps0 (F := Ideal)).drop 71) (wrest := ReferenceIdeal.Hand.wr_tlOps0.drop 71) (y := ReferenceIdeal.main_v87) (a := ReferenceIdeal.main_v85) (b := ReferenceIdeal.main_v86) rfl rfl (by decide +kernel) (by decide +kernel) (by decide +kernel)
  rw [eK, eR, h67 WK WR hP hLin hVal, h69 WK WR hP hLin hVal]
  try rfl
theorem h71 : StableHlo.after (KernelIdeal.Tail.ks0 (F := Ideal)) WK (Proc.devRef .tc KernelIdeal.main_c_51) = StableHlo.after (ReferenceIdeal.Hand.tlOps0 (F := Ideal)) WR (Proc.devRef .tc ReferenceIdeal.main_c_31) :=
  by
  have eK := final_nullary (KernelIdeal.Tail.writes_ks0 (F := Ideal)) WK 76 (rest := (KernelIdeal.Tail.ks0 (F := Ideal)).drop 77) (wrest := KernelIdeal.Tail.wr_ks0.drop 77) (y := KernelIdeal.main_c_51) rfl rfl (by decide +kernel)
  have eR := final_nullary (ReferenceIdeal.Hand.writes_tlOps0 (F := Ideal)) WR 71 (rest := (ReferenceIdeal.Hand.tlOps0 (F := Ideal)).drop 72) (wrest := ReferenceIdeal.Hand.wr_tlOps0.drop 72) (y := ReferenceIdeal.main_c_31) rfl rfl (by decide +kernel)
  rw [eK, eR]
  try rfl
theorem h72 : StableHlo.after (KernelIdeal.Tail.ks0 (F := Ideal)) WK (Proc.devRef .tc KernelIdeal.main_v114) = StableHlo.after (ReferenceIdeal.Hand.tlOps0 (F := Ideal)) WR (Proc.devRef .tc ReferenceIdeal.main_v88) :=
  by
  have eK := final_unary (KernelIdeal.Tail.writes_ks0 (F := Ideal)) WK 77 (rest := (KernelIdeal.Tail.ks0 (F := Ideal)).drop 78) (wrest := KernelIdeal.Tail.wr_ks0.drop 78) (y := KernelIdeal.main_v114) (x := KernelIdeal.main_c_51) rfl rfl (by decide +kernel) (by decide +kernel)
  have eR := final_unary (ReferenceIdeal.Hand.writes_tlOps0 (F := Ideal)) WR 72 (rest := (ReferenceIdeal.Hand.tlOps0 (F := Ideal)).drop 73) (wrest := ReferenceIdeal.Hand.wr_tlOps0.drop 73) (y := ReferenceIdeal.main_v88) (x := ReferenceIdeal.main_c_31) rfl rfl (by decide +kernel) (by decide +kernel)
  rw [eK, eR, h71 WK WR hP hLin hVal]
  try rfl
theorem h73 : StableHlo.after (KernelIdeal.Tail.ks0 (F := Ideal)) WK (Proc.devRef .tc KernelIdeal.main_v115) = StableHlo.after (ReferenceIdeal.Hand.tlOps0 (F := Ideal)) WR (Proc.devRef .tc ReferenceIdeal.main_v89) :=
  by
  have eK := final_binary (KernelIdeal.Tail.writes_ks0 (F := Ideal)) WK 78 (rest := (KernelIdeal.Tail.ks0 (F := Ideal)).drop 79) (wrest := KernelIdeal.Tail.wr_ks0.drop 79) (y := KernelIdeal.main_v115) (a := KernelIdeal.main_v111) (b := KernelIdeal.main_v114) rfl rfl (by decide +kernel) (by decide +kernel) (by decide +kernel)
  have eR := final_binary (ReferenceIdeal.Hand.writes_tlOps0 (F := Ideal)) WR 73 (rest := (ReferenceIdeal.Hand.tlOps0 (F := Ideal)).drop 74) (wrest := ReferenceIdeal.Hand.wr_tlOps0.drop 74) (y := ReferenceIdeal.main_v89) (a := ReferenceIdeal.main_v85) (b := ReferenceIdeal.main_v88) rfl rfl (by decide +kernel) (by decide +kernel) (by decide +kernel)
  rw [eK, eR, h67 WK WR hP hLin hVal, h72 WK WR hP hLin hVal]
  try rfl
theorem h74 : StableHlo.after (KernelIdeal.Tail.ks0 (F := Ideal)) WK (Proc.devRef .tc KernelIdeal.main_v116) = StableHlo.after (ReferenceIdeal.Hand.tlOps0 (F := Ideal)) WR (Proc.devRef .tc ReferenceIdeal.main_v90) :=
  by
  have eK := final_ternary (KernelIdeal.Tail.writes_ks0 (F := Ideal)) WK 79 (rest := (KernelIdeal.Tail.ks0 (F := Ideal)).drop 80) (wrest := KernelIdeal.Tail.wr_ks0.drop 80) (y := KernelIdeal.main_v116) (c := KernelIdeal.main_v113) (a := KernelIdeal.main_v115) (b := KernelIdeal.main_v111) rfl rfl (by decide +kernel) (by decide +kernel) (by decide +kernel) (by decide +kernel)
  have eR := final_ternary (ReferenceIdeal.Hand.writes_tlOps0 (F := Ideal)) WR 74 (rest := (ReferenceIdeal.Hand.tlOps0 (F := Ideal)).drop 75) (wrest := ReferenceIdeal.Hand.wr_tlOps0.drop 75) (y := ReferenceIdeal.main_v90) (c := ReferenceIdeal.main_v87) (a := ReferenceIdeal.main_v89) (b := ReferenceIdeal.main_v85) rfl rfl (by decide +kernel) (by decide +kernel) (by decide +kernel) (by decide +kernel)
  rw [eK, eR, h70 WK WR hP hLin hVal, h73 WK WR hP hLin hVal, h67 WK WR hP hLin hVal]
  try rfl
theorem h75 : StableHlo.after (KernelIdeal.Tail.ks0 (F := Ideal)) WK (Proc.devRef .tc KernelIdeal.main_v117) = StableHlo.after (ReferenceIdeal.Hand.tlOps0 (F := Ideal)) WR (Proc.devRef .tc ReferenceIdeal.main_v91) :=
  by
  have eK := final_unary (KernelIdeal.Tail.writes_ks0 (F := Ideal)) WK 80 (rest := (KernelIdeal.Tail.ks0 (F := Ideal)).drop 81) (wrest := KernelIdeal.Tail.wr_ks0.drop 81) (y := KernelIdeal.main_v117) (x := KernelIdeal.main_v116) rfl rfl (by decide +kernel) (by decide +kernel)
  have eR := final_unary (ReferenceIdeal.Hand.writes_tlOps0 (F := Ideal)) WR 75 (rest := (ReferenceIdeal.Hand.tlOps0 (F := Ideal)).drop 76) (wrest := ReferenceIdeal.Hand.wr_tlOps0.drop 76) (y := ReferenceIdeal.main_v91) (x := ReferenceIdeal.main_v90) rfl rfl (by decide +kernel) (by decide +kernel)
  rw [eK, eR, h74 WK WR hP hLin hVal]
  try rfl
theorem h76 : StableHlo.after (KernelIdeal.Tail.ks0 (F := Ideal)) WK (Proc.devRef .tc KernelIdeal.main_v118) = StableHlo.after (ReferenceIdeal.Hand.tlOps0 (F := Ideal)) WR (Proc.devRef .tc ReferenceIdeal.main_v92) :=
  by
  have eK := final_binary (KernelIdeal.Tail.writes_ks0 (F := Ideal)) WK 81 (rest := (KernelIdeal.Tail.ks0 (F := Ideal)).drop 82) (wrest := KernelIdeal.Tail.wr_ks0.drop 82) (y := KernelIdeal.main_v118) (a := KernelIdeal.main_v66) (b := KernelIdeal.main_v117) rfl rfl (by decide +kernel) (by decide +kernel) (by decide +kernel)
  have eR := final_binary (ReferenceIdeal.Hand.writes_tlOps0 (F := Ideal)) WR 76 (rest := (ReferenceIdeal.Hand.tlOps0 (F := Ideal)).drop 77) (wrest := ReferenceIdeal.Hand.wr_tlOps0.drop 77) (y := ReferenceIdeal.main_v92) (a := ReferenceIdeal.main_v42) (b := ReferenceIdeal.main_v91) rfl rfl (by decide +kernel) (by decide +kernel) (by decide +kernel)
  rw [eK, eR, hLin, h75 WK WR hP hLin hVal]
  try rfl
theorem h77 : StableHlo.after (KernelIdeal.Tail.ks0 (F := Ideal)) WK (Proc.devRef .tc KernelIdeal.main_c_52) = StableHlo.after (ReferenceIdeal.Hand.tlOps0 (F := Ideal)) WR (Proc.devRef .tc ReferenceIdeal.main_c_32) :=
  by
  have eK := final_nullary (KernelIdeal.Tail.writes_ks0 (F := Ideal)) WK 82 (rest := (KernelIdeal.Tail.ks0 (F := Ideal)).drop 83) (wrest := KernelIdeal.Tail.wr_ks0.drop 83) (y := KernelIdeal.main_c_52) rfl rfl (by decide +kernel)
  have eR := final_nullary (ReferenceIdeal.Hand.writes_tlOps0 (F := Ideal)) WR 77 (rest := (ReferenceIdeal.Hand.tlOps0 (F := Ideal)).drop 78) (wrest := ReferenceIdeal.Hand.wr_tlOps0.drop 78) (y := ReferenceIdeal.main_c_32) rfl rfl (by decide +kernel)
  rw [eK, eR]
  try rfl
theorem h78 : StableHlo.after (KernelIdeal.Tail.ks0 (F := Ideal)) WK (Proc.devRef .tc KernelIdeal.main_v119) = StableHlo.after (ReferenceIdeal.Hand.tlOps0 (F := Ideal)) WR (Proc.devRef .tc ReferenceIdeal.main_v93) :=
  by
  have eK := final_unary (KernelIdeal.Tail.writes_ks0 (F := Ideal)) WK 83 (rest := (KernelIdeal.Tail.ks0 (F := Ideal)).drop 84) (wrest := KernelIdeal.Tail.wr_ks0.drop 84) (y := KernelIdeal.main_v119) (x := KernelIdeal.main_c_52) rfl rfl (by decide +kernel) (by decide +kernel)
  have eR := final_unary (ReferenceIdeal.Hand.writes_tlOps0 (F := Ideal)) WR 78 (rest := (ReferenceIdeal.Hand.tlOps0 (F := Ideal)).drop 79) (wrest := ReferenceIdeal.Hand.wr_tlOps0.drop 79) (y := ReferenceIdeal.main_v93) (x := ReferenceIdeal.main_c_32) rfl rfl (by decide +kernel) (by decide +kernel)
  rw [eK, eR, h77 WK WR hP hLin hVal]
  try rfl
theorem h79 : StableHlo.after (KernelIdeal.Tail.ks0 (F := Ideal)) WK (Proc.devRef .tc KernelIdeal.main_v120) = StableHlo.after (ReferenceIdeal.Hand.tlOps0 (F := Ideal)) WR (Proc.devRef .tc ReferenceIdeal.main_v94) :=
  by
  have eK := final_unary (KernelIdeal.Tail.writes_ks0 (F := Ideal)) WK 84 (rest := (KernelIdeal.Tail.ks0 (F := Ideal)).drop 85) (wrest := KernelIdeal.Tail.wr_ks0.drop 85) (y := KernelIdeal.main_v120) (x := KernelIdeal.main_v118) rfl rfl (by decide +kernel) (by decide +kernel)
  have eR := final_unary (ReferenceIdeal.Hand.writes_tlOps0 (F := Ideal)) WR 79 (rest := (ReferenceIdeal.Hand.tlOps0 (F := Ideal)).drop 80) (wrest := ReferenceIdeal.Hand.wr_tlOps0.drop 80) (y := ReferenceIdeal.main_v94) (x := ReferenceIdeal.main_v92) rfl rfl (by decide +kernel) (by decide +kernel)
  rw [eK, eR, h76 WK WR hP hLin hVal]
  try rfl
theorem h80 : StableHlo.after (KernelIdeal.Tail.ks0 (F := Ideal)) WK (Proc.devRef .tc KernelIdeal.main_v121) = StableHlo.after (ReferenceIdeal.Hand.tlOps0 (F := Ideal)) WR (Proc.devRef .tc ReferenceIdeal.main_v95) :=
  by
  have eK := final_unary (KernelIdeal.Tail.writes_ks0 (F := Ideal)) WK 85 (rest := (KernelIdeal.Tail.ks0 (F := Ideal)).drop 86) (wrest := KernelIdeal.Tail.wr_ks0.drop 86) (y := KernelIdeal.main_v121) (x := KernelIdeal.main_v118) rfl rfl (by decide +kernel) (by decide +kernel)
  have eR := final_unary (ReferenceIdeal.Hand.writes_tlOps0 (F := Ideal)) WR 80 (rest := (ReferenceIdeal.Hand.tlOps0 (F := Ideal)).drop 81) (wrest := ReferenceIdeal.Hand.wr_tlOps0.drop 81) (y := ReferenceIdeal.main_v95) (x := ReferenceIdeal.main_v92) rfl rfl (by decide +kernel) (by decide +kernel)
  rw [eK, eR, h76 WK WR hP hLin hVal]
  try rfl
theorem h81 : StableHlo.after (KernelIdeal.Tail.ks0 (F := Ideal)) WK (Proc.devRef .tc KernelIdeal.main_v122) = StableHlo.after (ReferenceIdeal.Hand.tlOps0 (F := Ideal)) WR (Proc.devRef .tc ReferenceIdeal.main_v96) :=
  by
  have eK := final_binary (KernelIdeal.Tail.writes_ks0 (F := Ideal)) WK 86 (rest := (KernelIdeal.Tail.ks0 (F := Ideal)).drop 87) (wrest := KernelIdeal.Tail.wr_ks0.drop 87) (y := KernelIdeal.main_v122) (a := KernelIdeal.main_v120) (b := KernelIdeal.main_v121) rfl rfl (by decide +kernel) (by decide +kernel) (by decide +kernel)
  have eR := final_binary (ReferenceIdeal.Hand.writes_tlOps0 (F := Ideal)) WR 81 (rest := (ReferenceIdeal.Hand.tlOps0 (F := Ideal)).drop 82) (wrest := ReferenceIdeal.Hand.wr_tlOps0.drop 82) (y := ReferenceIdeal.main_v96) (a := ReferenceIdeal.main_v94) (b := ReferenceIdeal.main_v95) rfl rfl (by decide +kernel) (by decide +kernel) (by decide +kernel)
  rw [eK, eR, h79 WK WR hP hLin hVal, h80 WK WR hP hLin hVal]
  try rfl
theorem h82 : StableHlo.after (KernelIdeal.Tail.ks0 (F := Ideal)) WK (Proc.devRef .tc KernelIdeal.main_v123) = StableHlo.after (ReferenceIdeal.Hand.tlOps0 (F := Ideal)) WR (Proc.devRef .tc ReferenceIdeal.main_v97) :=
  by
  have eK := final_binary (KernelIdeal.Tail.writes_ks0 (F := Ideal)) WK 87 (rest := (KernelIdeal.Tail.ks0 (F := Ideal)).drop 88) (wrest := KernelIdeal.Tail.wr_ks0.drop 88) (y := KernelIdeal.main_v123) (a := KernelIdeal.main_v119) (b := KernelIdeal.main_v122) rfl rfl (by decide +kernel) (by decide +kernel) (by decide +kernel)
  have eR := final_binary (ReferenceIdeal.Hand.writes_tlOps0 (F := Ideal)) WR 82 (rest := (ReferenceIdeal.Hand.tlOps0 (F := Ideal)).drop 83) (wrest := ReferenceIdeal.Hand.wr_tlOps0.drop 83) (y := ReferenceIdeal.main_v97) (a := ReferenceIdeal.main_v93) (b := ReferenceIdeal.main_v96) rfl rfl (by decide +kernel) (by decide +kernel) (by decide +kernel)
  rw [eK, eR, h78 WK WR hP hLin hVal, h81 WK WR hP hLin hVal]
  try rfl
theorem h83 : StableHlo.after (KernelIdeal.Tail.ks0 (F := Ideal)) WK (Proc.devRef .tc KernelIdeal.main_c_53) = StableHlo.after (ReferenceIdeal.Hand.tlOps0 (F := Ideal)) WR (Proc.devRef .tc ReferenceIdeal.main_c_33) :=
  by
  have eK := final_nullary (KernelIdeal.Tail.writes_ks0 (F := Ideal)) WK 88 (rest := (KernelIdeal.Tail.ks0 (F := Ideal)).drop 89) (wrest := KernelIdeal.Tail.wr_ks0.drop 89) (y := KernelIdeal.main_c_53) rfl rfl (by decide +kernel)
  have eR := final_nullary (ReferenceIdeal.Hand.writes_tlOps0 (F := Ideal)) WR 83 (rest := (ReferenceIdeal.Hand.tlOps0 (F := Ideal)).drop 84) (wrest := ReferenceIdeal.Hand.wr_tlOps0.drop 84) (y := ReferenceIdeal.main_c_33) rfl rfl (by decide +kernel)
  rw [eK, eR]
  try rfl
theorem h84 : StableHlo.after (KernelIdeal.Tail.ks0 (F := Ideal)) WK (Proc.devRef .tc KernelIdeal.main_call5_v0) = StableHlo.after (ReferenceIdeal.Hand.tlOps0 (F := Ideal)) WR (Proc.devRef .tc ReferenceIdeal.main_call6_v0) :=
  by
  have eK := final_unary (KernelIdeal.Tail.writes_ks0 (F := Ideal)) WK 89 (rest := (KernelIdeal.Tail.ks0 (F := Ideal)).drop 90) (wrest := KernelIdeal.Tail.wr_ks0.drop 90) (y := KernelIdeal.main_call5_v0) (x := KernelIdeal.main_c_53) rfl rfl (by decide +kernel) (by decide +kernel)
  have eR := final_unary (ReferenceIdeal.Hand.writes_tlOps0 (F := Ideal)) WR 84 (rest := (ReferenceIdeal.Hand.tlOps0 (F := Ideal)).drop 85) (wrest := ReferenceIdeal.Hand.wr_tlOps0.drop 85) (y := ReferenceIdeal.main_call6_v0) (x := ReferenceIdeal.main_c_33) rfl rfl (by decide +kernel) (by decide +kernel)
  rw [eK, eR, h83 WK WR hP hLin hVal]
  try rfl
theorem h85 : StableHlo.after (KernelIdeal.Tail.ks0 (F := Ideal)) WK (Proc.devRef .tc KernelIdeal.main_call5_v1) = StableHlo.after (ReferenceIdeal.Hand.tlOps0 (F := Ideal)) WR (Proc.devRef .tc ReferenceIdeal.main_call6_v1) :=
  by
  have eK := final_unary (KernelIdeal.Tail.writes_ks0 (F := Ideal)) WK 90 (rest := (KernelIdeal.Tail.ks0 (F := Ideal)).drop 91) (wrest := KernelIdeal.Tail.wr_ks0.drop 91) (y := KernelIdeal.main_call5_v1) (x := KernelIdeal.main_call5_v0) rfl rfl (by decide +kernel) (by decide +kernel)
  have eR := final_unary (ReferenceIdeal.Hand.writes_tlOps0 (F := Ideal)) WR 85 (rest := (ReferenceIdeal.Hand.tlOps0 (F := Ideal)).drop 86) (wrest := ReferenceIdeal.Hand.wr_tlOps0.drop 86) (y := ReferenceIdeal.main_call6_v1) (x := ReferenceIdeal.main_call6_v0) rfl rfl (by decide +kernel) (by decide +kernel)
  rw [eK, eR, h84 WK WR hP hLin hVal]
  try rfl
theorem h86 : StableHlo.after (KernelIdeal.Tail.ks0 (F := Ideal)) WK (Proc.devRef .tc KernelIdeal.main_v124) = StableHlo.after (ReferenceIdeal.Hand.tlOps0 (F := Ideal)) WR (Proc.devRef .tc ReferenceIdeal.main_v98) :=
  by
  have eK := final_ternary (KernelIdeal.Tail.writes_ks0 (F := Ideal)) WK 91 (rest := (KernelIdeal.Tail.ks0 (F := Ideal)).drop 92) (wrest := KernelIdeal.Tail.wr_ks0.drop 92) (y := KernelIdeal.main_v124) (c := KernelIdeal.main_v123) (a := KernelIdeal.main_v69) (b := KernelIdeal.main_call5_v1) rfl rfl (by decide +kernel) (by decide +kernel) (by decide +kernel) (by decide +kernel)
  have eR := final_ternary (ReferenceIdeal.Hand.writes_tlOps0 (F := Ideal)) WR 86 (rest := (ReferenceIdeal.Hand.tlOps0 (F := Ideal)).drop 87) (wrest := ReferenceIdeal.Hand.wr_tlOps0.drop 87) (y := ReferenceIdeal.main_v98) (c := ReferenceIdeal.main_v97) (a := ReferenceIdeal.main_v43) (b := ReferenceIdeal.main_call6_v1) rfl rfl (by decide +kernel) (by decide +kernel) (by decide +kernel) (by decide +kernel)
  rw [eK, eR, h82 WK WR hP hLin hVal, h0 WK WR hP hLin hVal, h85 WK WR hP hLin hVal]
  try rfl
theorem h87 : StableHlo.after (KernelIdeal.Tail.ks0 (F := Ideal)) WK (Proc.devRef .tc KernelIdeal.main_call6_c) = StableHlo.after (ReferenceIdeal.Hand.tlOps0 (F := Ideal)) WR (Proc.devRef .tc ReferenceIdeal.main_call7_c) :=
  by
  have eK := final_nullary (KernelIdeal.Tail.writes_ks0 (F := Ideal)) WK 92 (rest := (KernelIdeal.Tail.ks0 (F := Ideal)).drop 93) (wrest := KernelIdeal.Tail.wr_ks0.drop 93) (y := KernelIdeal.main_call6_c) rfl rfl (by decide +kernel)
  have eR := final_nullary (ReferenceIdeal.Hand.writes_tlOps0 (F := Ideal)) WR 87 (rest := (ReferenceIdeal.Hand.tlOps0 (F := Ideal)).drop 88) (wrest := ReferenceIdeal.Hand.wr_tlOps0.drop 88) (y := ReferenceIdeal.main_call7_c) rfl rfl (by decide +kernel)
  rw [eK, eR]
  try rfl
theorem h88 : StableHlo.after (KernelIdeal.Tail.ks0 (F := Ideal)) WK (Proc.devRef .tc KernelIdeal.main_call6_v0) = StableHlo.after (ReferenceIdeal.Hand.tlOps0 (F := Ideal)) WR (Proc.devRef .tc ReferenceIdeal.main_call7_v0) :=
  by
  have eK := final_unary (KernelIdeal.Tail.writes_ks0 (F := Ideal)) WK 93 (rest := (KernelIdeal.Tail.ks0 (F := Ideal)).drop 94) (wrest := KernelIdeal.Tail.wr_ks0.drop 94) (y := KernelIdeal.main_call6_v0) (x := KernelIdeal.main_call6_c) rfl rfl (by decide +kernel) (by decide +kernel)
  have eR := final_unary (ReferenceIdeal.Hand.writes_tlOps0 (F := Ideal)) WR 88 (rest := (ReferenceIdeal.Hand.tlOps0 (F := Ideal)).drop 89) (wrest := ReferenceIdeal.Hand.wr_tlOps0.drop 89) (y := ReferenceIdeal.main_call7_v0) (x := ReferenceIdeal.main_call7_c) rfl rfl (by decide +kernel) (by decide +kernel)
  rw [eK, eR, h87 WK WR hP hLin hVal]
  try rfl
theorem h89 : StableHlo.after (KernelIdeal.Tail.ks0 (F := Ideal)) WK (Proc.devRef .tc KernelIdeal.main_v125) = StableHlo.after (ReferenceIdeal.Hand.tlOps0 (F := Ideal)) WR (Proc.devRef .tc ReferenceIdeal.main_v99) :=
  by
  have eK := final_binary (KernelIdeal.Tail.writes_ks0 (F := Ideal)) WK 94 (rest := (KernelIdeal.Tail.ks0 (F := Ideal)).drop 95) (wrest := KernelIdeal.Tail.wr_ks0.drop 95) (y := KernelIdeal.main_v125) (a := KernelIdeal.main_v124) (b := KernelIdeal.main_call6_v0) rfl rfl (by decide +kernel) (by decide +kernel) (by decide +kernel)
  have eR := final_binary (ReferenceIdeal.Hand.writes_tlOps0 (F := Ideal)) WR 89 (rest := (ReferenceIdeal.Hand.tlOps0 (F := Ideal)).drop 90) (wrest := ReferenceIdeal.Hand.wr_tlOps0.drop 90) (y := ReferenceIdeal.main_v99) (a := ReferenceIdeal.main_v98) (b := ReferenceIdeal.main_call7_v0) rfl rfl (by decide +kernel) (by decide +kernel) (by decide +kernel)
  rw [eK, eR, h86 WK WR hP hLin hVal, h88 WK WR hP hLin hVal]
  try rfl
theorem h90 : StableHlo.after (KernelIdeal.Tail.ks0 (F := Ideal)) WK (Proc.devRef .tc KernelIdeal.main_c_54) = StableHlo.after (ReferenceIdeal.Hand.tlOps0 (F := Ideal)) WR (Proc.devRef .tc ReferenceIdeal.main_c_34) :=
  by
  have eK := final_nullary (KernelIdeal.Tail.writes_ks0 (F := Ideal)) WK 95 (rest := (KernelIdeal.Tail.ks0 (F := Ideal)).drop 96) (wrest := KernelIdeal.Tail.wr_ks0.drop 96) (y := KernelIdeal.main_c_54) rfl rfl (by decide +kernel)
  have eR := final_nullary (ReferenceIdeal.Hand.writes_tlOps0 (F := Ideal)) WR 90 (rest := (ReferenceIdeal.Hand.tlOps0 (F := Ideal)).drop 91) (wrest := ReferenceIdeal.Hand.wr_tlOps0.drop 91) (y := ReferenceIdeal.main_c_34) rfl rfl (by decide +kernel)
  rw [eK, eR]
  try rfl
theorem h91 : StableHlo.after (KernelIdeal.Tail.ks0 (F := Ideal)) WK (Proc.devRef .tc KernelIdeal.main_v126) = StableHlo.after (ReferenceIdeal.Hand.tlOps0 (F := Ideal)) WR (Proc.devRef .tc ReferenceIdeal.main_v100) :=
  by
  have eK := final_unary (KernelIdeal.Tail.writes_ks0 (F := Ideal)) WK 96 (rest := (KernelIdeal.Tail.ks0 (F := Ideal)).drop 97) (wrest := KernelIdeal.Tail.wr_ks0.drop 97) (y := KernelIdeal.main_v126) (x := KernelIdeal.main_c_54) rfl rfl (by decide +kernel) (by decide +kernel)
  have eR := final_unary (ReferenceIdeal.Hand.writes_tlOps0 (F := Ideal)) WR 91 (rest := (ReferenceIdeal.Hand.tlOps0 (F := Ideal)).drop 92) (wrest := ReferenceIdeal.Hand.wr_tlOps0.drop 92) (y := ReferenceIdeal.main_v100) (x := ReferenceIdeal.main_c_34) rfl rfl (by decide +kernel) (by decide +kernel)
  rw [eK, eR, h90 WK WR hP hLin hVal]
  try rfl
theorem h92 : StableHlo.after (KernelIdeal.Tail.ks0 (F := Ideal)) WK (Proc.devRef .tc KernelIdeal.main_v127) = StableHlo.after (ReferenceIdeal.Hand.tlOps0 (F := Ideal)) WR (Proc.devRef .tc ReferenceIdeal.main_v101) :=
  by
  have eK := final_binary (KernelIdeal.Tail.writes_ks0 (F := Ideal)) WK 97 (rest := (KernelIdeal.Tail.ks0 (F := Ideal)).drop 98) (wrest := KernelIdeal.Tail.wr_ks0.drop 98) (y := KernelIdeal.main_v127) (a := KernelIdeal.main_v69) (b := KernelIdeal.main_v125) rfl rfl (by decide +kernel) (by decide +kernel) (by decide +kernel)
  have eR := final_binary (ReferenceIdeal.Hand.writes_tlOps0 (F := Ideal)) WR 92 (rest := (ReferenceIdeal.Hand.tlOps0 (F := Ideal)).drop 93) (wrest := ReferenceIdeal.Hand.wr_tlOps0.drop 93) (y := ReferenceIdeal.main_v101) (a := ReferenceIdeal.main_v43) (b := ReferenceIdeal.main_v99) rfl rfl (by decide +kernel) (by decide +kernel) (by decide +kernel)
  rw [eK, eR, h0 WK WR hP hLin hVal, h89 WK WR hP hLin hVal]
  try rfl
theorem h93 : StableHlo.after (KernelIdeal.Tail.ks0 (F := Ideal)) WK (Proc.devRef .tc KernelIdeal.main_c_55) = StableHlo.after (ReferenceIdeal.Hand.tlOps0 (F := Ideal)) WR (Proc.devRef .tc ReferenceIdeal.main_c_35) :=
  by
  have eK := final_nullary (KernelIdeal.Tail.writes_ks0 (F := Ideal)) WK 98 (rest := (KernelIdeal.Tail.ks0 (F := Ideal)).drop 99) (wrest := KernelIdeal.Tail.wr_ks0.drop 99) (y := KernelIdeal.main_c_55) rfl rfl (by decide +kernel)
  have eR := final_nullary (ReferenceIdeal.Hand.writes_tlOps0 (F := Ideal)) WR 93 (rest := (ReferenceIdeal.Hand.tlOps0 (F := Ideal)).drop 94) (wrest := ReferenceIdeal.Hand.wr_tlOps0.drop 94) (y := ReferenceIdeal.main_c_35) rfl rfl (by decide +kernel)
  rw [eK, eR]
  try rfl
theorem h94 : StableHlo.after (KernelIdeal.Tail.ks0 (F := Ideal)) WK (Proc.devRef .tc KernelIdeal.main_v128) = StableHlo.after (ReferenceIdeal.Hand.tlOps0 (F := Ideal)) WR (Proc.devRef .tc ReferenceIdeal.main_v102) :=
  by
  have eK := final_unary (KernelIdeal.Tail.writes_ks0 (F := Ideal)) WK 99 (rest := (KernelIdeal.Tail.ks0 (F := Ideal)).drop 100) (wrest := KernelIdeal.Tail.wr_ks0.drop 100) (y := KernelIdeal.main_v128) (x := KernelIdeal.main_c_55) rfl rfl (by decide +kernel) (by decide +kernel)
  have eR := final_unary (ReferenceIdeal.Hand.writes_tlOps0 (F := Ideal)) WR 94 (rest := (ReferenceIdeal.Hand.tlOps0 (F := Ideal)).drop 95) (wrest := ReferenceIdeal.Hand.wr_tlOps0.drop 95) (y := ReferenceIdeal.main_v102) (x := ReferenceIdeal.main_c_35) rfl rfl (by decide +kernel) (by decide +kernel)
  rw [eK, eR, h93 WK WR hP hLin hVal]
  try rfl
theorem h95 : StableHlo.after (KernelIdeal.Tail.ks0 (F := Ideal)) WK (Proc.devRef .tc KernelIdeal.main_v129) = StableHlo.after (ReferenceIdeal.Hand.tlOps0 (F := Ideal)) WR (Proc.devRef .tc ReferenceIdeal.main_v103) :=
  by
  have eK := final_binary (KernelIdeal.Tail.writes_ks0 (F := Ideal)) WK 100 (rest := (KernelIdeal.Tail.ks0 (F := Ideal)).drop 101) (wrest := KernelIdeal.Tail.wr_ks0.drop 101) (y := KernelIdeal.main_v129) (a := KernelIdeal.main_v111) (b := KernelIdeal.main_v128) rfl rfl (by decide +kernel) (by decide +kernel) (by decide +kernel)
  have eR := final_binary (ReferenceIdeal.Hand.writes_tlOps0 (F := Ideal)) WR 95 (rest := (ReferenceIdeal.Hand.tlOps0 (F := Ideal)).drop 96) (wrest := ReferenceIdeal.Hand.wr_tlOps0.drop 96) (y := ReferenceIdeal.main_v103) (a := ReferenceIdeal.main_v85) (b := ReferenceIdeal.main_v102) rfl rfl (by decide +kernel) (by decide +kernel) (by decide +kernel)
  rw [eK, eR, h67 WK WR hP hLin hVal, h94 WK WR hP hLin hVal]
  try rfl
theorem h96 : StableHlo.after (KernelIdeal.Tail.ks0 (F := Ideal)) WK (Proc.devRef .tc KernelIdeal.main_c_56) = StableHlo.after (ReferenceIdeal.Hand.tlOps0 (F := Ideal)) WR (Proc.devRef .tc ReferenceIdeal.main_c_36) :=
  by
  have eK := final_nullary (KernelIdeal.Tail.writes_ks0 (F := Ideal)) WK 101 (rest := (KernelIdeal.Tail.ks0 (F := Ideal)).drop 102) (wrest := KernelIdeal.Tail.wr_ks0.drop 102) (y := KernelIdeal.main_c_56) rfl rfl (by decide +kernel)
  have eR := final_nullary (ReferenceIdeal.Hand.writes_tlOps0 (F := Ideal)) WR 96 (rest := (ReferenceIdeal.Hand.tlOps0 (F := Ideal)).drop 97) (wrest := ReferenceIdeal.Hand.wr_tlOps0.drop 97) (y := ReferenceIdeal.main_c_36) rfl rfl (by decide +kernel)
  rw [eK, eR]
  try rfl
theorem h97 : StableHlo.after (KernelIdeal.Tail.ks0 (F := Ideal)) WK (Proc.devRef .tc KernelIdeal.main_v130) = StableHlo.after (ReferenceIdeal.Hand.tlOps0 (F := Ideal)) WR (Proc.devRef .tc ReferenceIdeal.main_v104) :=
  by
  have eK := final_unary (KernelIdeal.Tail.writes_ks0 (F := Ideal)) WK 102 (rest := (KernelIdeal.Tail.ks0 (F := Ideal)).drop 103) (wrest := KernelIdeal.Tail.wr_ks0.drop 103) (y := KernelIdeal.main_v130) (x := KernelIdeal.main_c_56) rfl rfl (by decide +kernel) (by decide +kernel)
  have eR := final_unary (ReferenceIdeal.Hand.writes_tlOps0 (F := Ideal)) WR 97 (rest := (ReferenceIdeal.Hand.tlOps0 (F := Ideal)).drop 98) (wrest := ReferenceIdeal.Hand.wr_tlOps0.drop 98) (y := ReferenceIdeal.main_v104) (x := ReferenceIdeal.main_c_36) rfl rfl (by decide +kernel) (by decide +kernel)
  rw [eK, eR, h96 WK WR hP hLin hVal]
  try rfl
theorem h98 : StableHlo.after (KernelIdeal.Tail.ks0 (F := Ideal)) WK (Proc.devRef .tc KernelIdeal.main_v131) = StableHlo.after (ReferenceIdeal.Hand.tlOps0 (F := Ideal)) WR (Proc.devRef .tc ReferenceIdeal.main_v105) :=
  by
  have eK := final_binary (KernelIdeal.Tail.writes_ks0 (F := Ideal)) WK 103 (rest := (KernelIdeal.Tail.ks0 (F := Ideal)).drop 104) (wrest := KernelIdeal.Tail.wr_ks0.drop 104) (y := KernelIdeal.main_v131) (a := KernelIdeal.main_v111) (b := KernelIdeal.main_v130) rfl rfl (by decide +kernel) (by decide +kernel) (by decide +kernel)
  have eR := final_binary (ReferenceIdeal.Hand.writes_tlOps0 (F := Ideal)) WR 98 (rest := (ReferenceIdeal.Hand.tlOps0 (F := Ideal)).drop 99) (wrest := ReferenceIdeal.Hand.wr_tlOps0.drop 99) (y := ReferenceIdeal.main_v105) (a := ReferenceIdeal.main_v85) (b := ReferenceIdeal.main_v104) rfl rfl (by decide +kernel) (by decide +kernel) (by decide +kernel)
  rw [eK, eR, h67 WK WR hP hLin hVal, h97 WK WR hP hLin hVal]
  try rfl
theorem h99 : StableHlo.after (KernelIdeal.Tail.ks0 (F := Ideal)) WK (Proc.devRef .tc KernelIdeal.main_v132) = StableHlo.after (ReferenceIdeal.Hand.tlOps0 (F := Ideal)) WR (Proc.devRef .tc ReferenceIdeal.main_v106) :=
  by
  have eK := final_ternary (KernelIdeal.Tail.writes_ks0 (F := Ideal)) WK 104 (rest := (KernelIdeal.Tail.ks0 (F := Ideal)).drop 105) (wrest := KernelIdeal.Tail.wr_ks0.drop 105) (y := KernelIdeal.main_v132) (c := KernelIdeal.main_v129) (a := KernelIdeal.main_v131) (b := KernelIdeal.main_v111) rfl rfl (by decide +kernel) (by decide +kernel) (by decide +kernel) (by decide +kernel)
  have eR := final_ternary (ReferenceIdeal.Hand.writes_tlOps0 (F := Ideal)) WR 99 (rest := (ReferenceIdeal.Hand.tlOps0 (F := Ideal)).drop 100) (wrest := ReferenceIdeal.Hand.wr_tlOps0.drop 100) (y := ReferenceIdeal.main_v106) (c := ReferenceIdeal.main_v103) (a := ReferenceIdeal.main_v105) (b := ReferenceIdeal.main_v85) rfl rfl (by decide +kernel) (by decide +kernel) (by decide +kernel) (by decide +kernel)
  rw [eK, eR, h95 WK WR hP hLin hVal, h98 WK WR hP hLin hVal, h67 WK WR hP hLin hVal]
  try rfl
theorem h100 : StableHlo.after (KernelIdeal.Tail.ks0 (F := Ideal)) WK (Proc.devRef .tc KernelIdeal.main_v133) = StableHlo.after (ReferenceIdeal.Hand.tlOps0 (F := Ideal)) WR (Proc.devRef .tc ReferenceIdeal.main_v107) :=
  by
  have eK := final_unary (KernelIdeal.Tail.writes_ks0 (F := Ideal)) WK 105 (rest := (KernelIdeal.Tail.ks0 (F := Ideal)).drop 106) (wrest := KernelIdeal.Tail.wr_ks0.drop 106) (y := KernelIdeal.main_v133) (x := KernelIdeal.main_v132) rfl rfl (by decide +kernel) (by decide +kernel)
  have eR := final_unary (ReferenceIdeal.Hand.writes_tlOps0 (F := Ideal)) WR 100 (rest := (ReferenceIdeal.Hand.tlOps0 (F := Ideal)).drop 101) (wrest := ReferenceIdeal.Hand.wr_tlOps0.drop 101) (y := ReferenceIdeal.main_v107) (x := ReferenceIdeal.main_v106) rfl rfl (by decide +kernel) (by decide +kernel)
  rw [eK, eR, h99 WK WR hP hLin hVal]
  try rfl
theorem h101 : StableHlo.after (KernelIdeal.Tail.ks0 (F := Ideal)) WK (Proc.devRef .tc KernelIdeal.main_v134) = StableHlo.after (ReferenceIdeal.Hand.tlOps0 (F := Ideal)) WR (Proc.devRef .tc ReferenceIdeal.main_v108) :=
  by
  have eK := final_ternary (KernelIdeal.Tail.writes_ks0 (F := Ideal)) WK 106 (rest := (KernelIdeal.Tail.ks0 (F := Ideal)).drop 107) (wrest := KernelIdeal.Tail.wr_ks0.drop 107) (y := KernelIdeal.main_v134) (c := KernelIdeal.main_v126) (a := KernelIdeal.main_v133) (b := KernelIdeal.main_v127) rfl rfl (by decide +kernel) (by decide +kernel) (by decide +kernel) (by decide +kernel)
  have eR := final_ternary (ReferenceIdeal.Hand.writes_tlOps0 (F := Ideal)) WR 101 (rest := (ReferenceIdeal.Hand.tlOps0 (F := Ideal)).drop 102) (wrest := ReferenceIdeal.Hand.wr_tlOps0.drop 102) (y := ReferenceIdeal.main_v108) (c := ReferenceIdeal.main_v100) (a := ReferenceIdeal.main_v107) (b := ReferenceIdeal.main_v101) rfl rfl (by decide +kernel) (by decide +kernel) (by decide +kernel) (by decide +kernel)
  rw [eK, eR, h91 WK WR hP hLin hVal, h100 WK WR hP hLin hVal, h92 WK WR hP hLin hVal]
  try rfl
theorem h102 : StableHlo.after (KernelIdeal.Tail.ks0 (F := Ideal)) WK (Proc.devRef .tc KernelIdeal.main_c_57) = StableHlo.after (ReferenceIdeal.Hand.tlOps0 (F := Ideal)) WR (Proc.devRef .tc ReferenceIdeal.main_c_37) :=
  by
  have eK := final_nullary (KernelIdeal.Tail.writes_ks0 (F := Ideal)) WK 107 (rest := (KernelIdeal.Tail.ks0 (F := Ideal)).drop 108) (wrest := KernelIdeal.Tail.wr_ks0.drop 108) (y := KernelIdeal.main_c_57) rfl rfl (by decide +kernel)
  have eR := final_nullary (ReferenceIdeal.Hand.writes_tlOps0 (F := Ideal)) WR 102 (rest := (ReferenceIdeal.Hand.tlOps0 (F := Ideal)).drop 103) (wrest := ReferenceIdeal.Hand.wr_tlOps0.drop 103) (y := ReferenceIdeal.main_c_37) rfl rfl (by decide +kernel)
  rw [eK, eR]
  try rfl
theorem h103 : StableHlo.after (KernelIdeal.Tail.ks0 (F := Ideal)) WK (Proc.devRef .tc KernelIdeal.main_v135) = StableHlo.after (ReferenceIdeal.Hand.tlOps0 (F := Ideal)) WR (Proc.devRef .tc ReferenceIdeal.main_v109) :=
  by
  have eK := final_unary (KernelIdeal.Tail.writes_ks0 (F := Ideal)) WK 108 (rest := (KernelIdeal.Tail.ks0 (F := Ideal)).drop 109) (wrest := KernelIdeal.Tail.wr_ks0.drop 109) (y := KernelIdeal.main_v135) (x := KernelIdeal.main_c_57) rfl rfl (by decide +kernel) (by decide +kernel)
  have eR := final_unary (ReferenceIdeal.Hand.writes_tlOps0 (F := Ideal)) WR 103 (rest := (ReferenceIdeal.Hand.tlOps0 (F := Ideal)).drop 104) (wrest := ReferenceIdeal.Hand.wr_tlOps0.drop 104) (y := ReferenceIdeal.main_v109) (x := ReferenceIdeal.main_c_37) rfl rfl (by decide +kernel) (by decide +kernel)
  rw [eK, eR, h102 WK WR hP hLin hVal]
  try rfl
theorem h104 : StableHlo.after (KernelIdeal.Tail.ks0 (F := Ideal)) WK (Proc.devRef .tc KernelIdeal.main_v136) = StableHlo.after (ReferenceIdeal.Hand.tlOps0 (F := Ideal)) WR (Proc.devRef .tc ReferenceIdeal.main_v110) :=
  by
  have eK := final_binary (KernelIdeal.Tail.writes_ks0 (F := Ideal)) WK 109 (rest := (KernelIdeal.Tail.ks0 (F := Ideal)).drop 110) (wrest := KernelIdeal.Tail.wr_ks0.drop 110) (y := KernelIdeal.main_v136) (a := KernelIdeal.main_v110) (b := KernelIdeal.main_v135) rfl rfl (by decide +kernel) (by decide +kernel) (by decide +kernel)
  have eR := final_binary (ReferenceIdeal.Hand.writes_tlOps0 (F := Ideal)) WR 104 (rest := (ReferenceIdeal.Hand.tlOps0 (F := Ideal)).drop 105) (wrest := ReferenceIdeal.Hand.wr_tlOps0.drop 105) (y := ReferenceIdeal.main_v110) (a := ReferenceIdeal.main_v84) (b := ReferenceIdeal.main_v109) rfl rfl (by decide +kernel) (by decide +kernel) (by decide +kernel)
  rw [eK, eR, h64 WK WR hP hLin hVal, h103 WK WR hP hLin hVal]
  try rfl
theorem h105 : StableHlo.after (KernelIdeal.Tail.ks0 (F := Ideal)) WK (Proc.devRef .tc KernelIdeal.main_v137) = StableHlo.after (ReferenceIdeal.Hand.tlOps0 (F := Ideal)) WR (Proc.devRef .tc ReferenceIdeal.main_v111) :=
  by
  have eK := final_binary (KernelIdeal.Tail.writes_ks0 (F := Ideal)) WK 110 (rest := (KernelIdeal.Tail.ks0 (F := Ideal)).drop 111) (wrest := KernelIdeal.Tail.wr_ks0.drop 111) (y := KernelIdeal.main_v137) (a := KernelIdeal.main_v68) (b := KernelIdeal.main_v136) rfl rfl (by decide +kernel) (by decide +kernel) (by decide +kernel)
  have eR := final_binary (ReferenceIdeal.Hand.writes_tlOps0 (F := Ideal)) WR 105 (rest := (ReferenceIdeal.Hand.tlOps0 (F := Ideal)).drop 106) (wrest := ReferenceIdeal.Hand.wr_tlOps0.drop 106) (y := ReferenceIdeal.main_v111) (a := ReferenceIdeal.main_v29) (b := ReferenceIdeal.main_v110) rfl rfl (by decide +kernel) (by decide +kernel) (by decide +kernel)
  rw [eK, eR, hVal, h104 WK WR hP hLin hVal]
  try rfl
theorem h106 : StableHlo.after (KernelIdeal.Tail.ks0 (F := Ideal)) WK (Proc.devRef .tc KernelIdeal.main_c_58) = StableHlo.after (ReferenceIdeal.Hand.tlOps0 (F := Ideal)) WR (Proc.devRef .tc ReferenceIdeal.main_c_38) :=
  by
  have eK := final_nullary (KernelIdeal.Tail.writes_ks0 (F := Ideal)) WK 111 (rest := (KernelIdeal.Tail.ks0 (F := Ideal)).drop 112) (wrest := KernelIdeal.Tail.wr_ks0.drop 112) (y := KernelIdeal.main_c_58) rfl rfl (by decide +kernel)
  have eR := final_nullary (ReferenceIdeal.Hand.writes_tlOps0 (F := Ideal)) WR 106 (rest := (ReferenceIdeal.Hand.tlOps0 (F := Ideal)).drop 107) (wrest := ReferenceIdeal.Hand.wr_tlOps0.drop 107) (y := ReferenceIdeal.main_c_38) rfl rfl (by decide +kernel)
  rw [eK, eR]
  try rfl
theorem h107 : StableHlo.after (KernelIdeal.Tail.ks0 (F := Ideal)) WK (Proc.devRef .tc KernelIdeal.main_v138) = StableHlo.after (ReferenceIdeal.Hand.tlOps0 (F := Ideal)) WR (Proc.devRef .tc ReferenceIdeal.main_v112) :=
  by
  have eK := final_unary (KernelIdeal.Tail.writes_ks0 (F := Ideal)) WK 112 (rest := (KernelIdeal.Tail.ks0 (F := Ideal)).drop 113) (wrest := KernelIdeal.Tail.wr_ks0.drop 113) (y := KernelIdeal.main_v138) (x := KernelIdeal.main_c_58) rfl rfl (by decide +kernel) (by decide +kernel)
  have eR := final_unary (ReferenceIdeal.Hand.writes_tlOps0 (F := Ideal)) WR 107 (rest := (ReferenceIdeal.Hand.tlOps0 (F := Ideal)).drop 108) (wrest := ReferenceIdeal.Hand.wr_tlOps0.drop 108) (y := ReferenceIdeal.main_v112) (x := ReferenceIdeal.main_c_38) rfl rfl (by decide +kernel) (by decide +kernel)
  rw [eK, eR, h106 WK WR hP hLin hVal]
  try rfl
theorem h108 : StableHlo.after (KernelIdeal.Tail.ks0 (F := Ideal)) WK (Proc.devRef .tc KernelIdeal.main_v139) = StableHlo.after (ReferenceIdeal.Hand.tlOps0 (F := Ideal)) WR (Proc.devRef .tc ReferenceIdeal.main_v113) :=
  by
  have eK := final_binary (KernelIdeal.Tail.writes_ks0 (F := Ideal)) WK 113 (rest := (KernelIdeal.Tail.ks0 (F := Ideal)).drop 114) (wrest := KernelIdeal.Tail.wr_ks0.drop 114) (y := KernelIdeal.main_v139) (a := KernelIdeal.main_v134) (b := KernelIdeal.main_v138) rfl rfl (by decide +kernel) (by decide +kernel) (by decide +kernel)
  have eR := final_binary (ReferenceIdeal.Hand.writes_tlOps0 (F := Ideal)) WR 108 (rest := (ReferenceIdeal.Hand.tlOps0 (F := Ideal)).drop 109) (wrest := ReferenceIdeal.Hand.wr_tlOps0.drop 109) (y := ReferenceIdeal.main_v113) (a := ReferenceIdeal.main_v108) (b := ReferenceIdeal.main_v112) rfl rfl (by decide +kernel) (by decide +kernel) (by decide +kernel)
  rw [eK, eR, h101 WK WR hP hLin hVal, h107 WK WR hP hLin hVal]
  try rfl
theorem h109 : StableHlo.after (KernelIdeal.Tail.ks0 (F := Ideal)) WK (Proc.devRef .tc KernelIdeal.main_v140) = StableHlo.after (ReferenceIdeal.Hand.tlOps0 (F := Ideal)) WR (Proc.devRef .tc ReferenceIdeal.main_v114) :=
  by
  have eK := final_binary (KernelIdeal.Tail.writes_ks0 (F := Ideal)) WK 114 (rest := (KernelIdeal.Tail.ks0 (F := Ideal)).drop 115) (wrest := KernelIdeal.Tail.wr_ks0.drop 115) (y := KernelIdeal.main_v140) (a := KernelIdeal.main_v137) (b := KernelIdeal.main_v139) rfl rfl (by decide +kernel) (by decide +kernel) (by decide +kernel)
  have eR := final_binary (ReferenceIdeal.Hand.writes_tlOps0 (F := Ideal)) WR 109 (rest := (ReferenceIdeal.Hand.tlOps0 (F := Ideal)).drop 110) (wrest := ReferenceIdeal.Hand.wr_tlOps0.drop 110) (y := ReferenceIdeal.main_v114) (a := ReferenceIdeal.main_v111) (b := ReferenceIdeal.main_v113) rfl rfl (by decide +kernel) (by decide +kernel) (by decide +kernel)
  rw [eK, eR, h105 WK WR hP hLin hVal, h108 WK WR hP hLin hVal]
  try rfl
theorem h110 : StableHlo.after (KernelIdeal.Tail.ks0 (F := Ideal)) WK (Proc.devRef .tc KernelIdeal.main_c_59) = StableHlo.after (ReferenceIdeal.Hand.tlOps0 (F := Ideal)) WR (Proc.devRef .tc ReferenceIdeal.main_c_39) :=
  by
  have eK := final_nullary (KernelIdeal.Tail.writes_ks0 (F := Ideal)) WK 115 (rest := (KernelIdeal.Tail.ks0 (F := Ideal)).drop 116) (wrest := KernelIdeal.Tail.wr_ks0.drop 116) (y := KernelIdeal.main_c_59) rfl rfl (by decide +kernel)
  have eR := final_nullary (ReferenceIdeal.Hand.writes_tlOps0 (F := Ideal)) WR 110 (rest := (ReferenceIdeal.Hand.tlOps0 (F := Ideal)).drop 111) (wrest := ReferenceIdeal.Hand.wr_tlOps0.drop 111) (y := ReferenceIdeal.main_c_39) rfl rfl (by decide +kernel)
  rw [eK, eR]
  try rfl
theorem h111 : StableHlo.after (KernelIdeal.Tail.ks0 (F := Ideal)) WK (Proc.devRef .tc KernelIdeal.main_call7_v0) = StableHlo.after (ReferenceIdeal.Hand.tlOps0 (F := Ideal)) WR (Proc.devRef .tc ReferenceIdeal.main_call8_v0) :=
  by
  have eK := final_unary (KernelIdeal.Tail.writes_ks0 (F := Ideal)) WK 116 (rest := (KernelIdeal.Tail.ks0 (F := Ideal)).drop 117) (wrest := KernelIdeal.Tail.wr_ks0.drop 117) (y := KernelIdeal.main_call7_v0) (x := KernelIdeal.main_c_59) rfl rfl (by decide +kernel) (by decide +kernel)
  have eR := final_unary (ReferenceIdeal.Hand.writes_tlOps0 (F := Ideal)) WR 111 (rest := (ReferenceIdeal.Hand.tlOps0 (F := Ideal)).drop 112) (wrest := ReferenceIdeal.Hand.wr_tlOps0.drop 112) (y := ReferenceIdeal.main_call8_v0) (x := ReferenceIdeal.main_c_39) rfl rfl (by decide +kernel) (by decide +kernel)
  rw [eK, eR, h110 WK WR hP hLin hVal]
  try rfl
theorem h112 : StableHlo.after (KernelIdeal.Tail.ks0 (F := Ideal)) WK (Proc.devRef .tc KernelIdeal.main_call7_v1) = StableHlo.after (ReferenceIdeal.Hand.tlOps0 (F := Ideal)) WR (Proc.devRef .tc ReferenceIdeal.main_call8_v1) :=
  by
  have eK := final_unary (KernelIdeal.Tail.writes_ks0 (F := Ideal)) WK 117 (rest := (KernelIdeal.Tail.ks0 (F := Ideal)).drop 118) (wrest := KernelIdeal.Tail.wr_ks0.drop 118) (y := KernelIdeal.main_call7_v1) (x := KernelIdeal.main_call7_v0) rfl rfl (by decide +kernel) (by decide +kernel)
  have eR := final_unary (ReferenceIdeal.Hand.writes_tlOps0 (F := Ideal)) WR 112 (rest := (ReferenceIdeal.Hand.tlOps0 (F := Ideal)).drop 113) (wrest := ReferenceIdeal.Hand.wr_tlOps0.drop 113) (y := ReferenceIdeal.main_call8_v1) (x := ReferenceIdeal.main_call8_v0) rfl rfl (by decide +kernel) (by decide +kernel)
  rw [eK, eR, h111 WK WR hP hLin hVal]
  try rfl
theorem h113 : StableHlo.after (KernelIdeal.Tail.ks0 (F := Ideal)) WK (Proc.devRef .tc KernelIdeal.main_v141) = StableHlo.after (ReferenceIdeal.Hand.tlOps0 (F := Ideal)) WR (Proc.devRef .tc ReferenceIdeal.main_v115) :=
  by
  have eK := final_ternary (KernelIdeal.Tail.writes_ks0 (F := Ideal)) WK 118 (rest := (KernelIdeal.Tail.ks0 (F := Ideal)).drop 119) (wrest := KernelIdeal.Tail.wr_ks0.drop 119) (y := KernelIdeal.main_v141) (c := KernelIdeal.main_v140) (a := KernelIdeal.main_v110) (b := KernelIdeal.main_call7_v1) rfl rfl (by decide +kernel) (by decide +kernel) (by decide +kernel) (by decide +kernel)
  have eR := final_ternary (ReferenceIdeal.Hand.writes_tlOps0 (F := Ideal)) WR 113 (rest := (ReferenceIdeal.Hand.tlOps0 (F := Ideal)).drop 114) (wrest := ReferenceIdeal.Hand.wr_tlOps0.drop 114) (y := ReferenceIdeal.main_v115) (c := ReferenceIdeal.main_v114) (a := ReferenceIdeal.main_v84) (b := ReferenceIdeal.main_call8_v1) rfl rfl (by decide +kernel) (by decide +kernel) (by decide +kernel) (by decide +kernel)
  rw [eK, eR, h109 WK WR hP hLin hVal, h64 WK WR hP hLin hVal, h112 WK WR hP hLin hVal]
  try rfl
theorem h114 : StableHlo.after (KernelIdeal.Tail.ks0 (F := Ideal)) WK (Proc.devRef .tc KernelIdeal.main_c_60) = StableHlo.after (ReferenceIdeal.Hand.tlOps0 (F := Ideal)) WR (Proc.devRef .tc ReferenceIdeal.main_c_40) :=
  by
  have eK := final_nullary (KernelIdeal.Tail.writes_ks0 (F := Ideal)) WK 119 (rest := (KernelIdeal.Tail.ks0 (F := Ideal)).drop 120) (wrest := KernelIdeal.Tail.wr_ks0.drop 120) (y := KernelIdeal.main_c_60) rfl rfl (by decide +kernel)
  have eR := final_nullary (ReferenceIdeal.Hand.writes_tlOps0 (F := Ideal)) WR 114 (rest := (ReferenceIdeal.Hand.tlOps0 (F := Ideal)).drop 115) (wrest := ReferenceIdeal.Hand.wr_tlOps0.drop 115) (y := ReferenceIdeal.main_c_40) rfl rfl (by decide +kernel)
  rw [eK, eR]
  try rfl
theorem h115 : StableHlo.after (KernelIdeal.Tail.ks0 (F := Ideal)) WK (Proc.devRef .tc KernelIdeal.main_call8_v0) = StableHlo.after (ReferenceIdeal.Hand.tlOps0 (F := Ideal)) WR (Proc.devRef .tc ReferenceIdeal.main_call9_v0) :=
  by
  have eK := final_unary (KernelIdeal.Tail.writes_ks0 (F := Ideal)) WK 120 (rest := (KernelIdeal.Tail.ks0 (F := Ideal)).drop 121) (wrest := KernelIdeal.Tail.wr_ks0.drop 121) (y := KernelIdeal.main_call8_v0) (x := KernelIdeal.main_c_60) rfl rfl (by decide +kernel) (by decide +kernel)
  have eR := final_unary (ReferenceIdeal.Hand.writes_tlOps0 (F := Ideal)) WR 115 (rest := (ReferenceIdeal.Hand.tlOps0 (F := Ideal)).drop 116) (wrest := ReferenceIdeal.Hand.wr_tlOps0.drop 116) (y := ReferenceIdeal.main_call9_v0) (x := ReferenceIdeal.main_c_40) rfl rfl (by decide +kernel) (by decide +kernel)
  rw [eK, eR, h114 WK WR hP hLin hVal]
  try rfl
theorem h116 : StableHlo.after (KernelIdeal.Tail.ks0 (F := Ideal)) WK (Proc.devRef .tc KernelIdeal.main_call8_v1) = StableHlo.after (ReferenceIdeal.Hand.tlOps0 (F := Ideal)) WR (Proc.devRef .tc ReferenceIdeal.main_call9_v1) :=
  by
  have eK := final_unary (KernelIdeal.Tail.writes_ks0 (F := Ideal)) WK 121 (rest := (KernelIdeal.Tail.ks0 (F := Ideal)).drop 122) (wrest := KernelIdeal.Tail.wr_ks0.drop 122) (y := KernelIdeal.main_call8_v1) (x := KernelIdeal.main_call8_v0) rfl rfl (by decide +kernel) (by decide +kernel)
  have eR := final_unary (ReferenceIdeal.Hand.writes_tlOps0 (F := Ideal)) WR 116 (rest := (ReferenceIdeal.Hand.tlOps0 (F := Ideal)).drop 117) (wrest := ReferenceIdeal.Hand.wr_tlOps0.drop 117) (y := ReferenceIdeal.main_call9_v1) (x := ReferenceIdeal.main_call9_v0) rfl rfl (by decide +kernel) (by decide +kernel)
  rw [eK, eR, h115 WK WR hP hLin hVal]
  try rfl
theorem h117 : StableHlo.after (KernelIdeal.Tail.ks0 (F := Ideal)) WK (Proc.devRef .tc KernelIdeal.main_v142) = StableHlo.after (ReferenceIdeal.Hand.tlOps0 (F := Ideal)) WR (Proc.devRef .tc ReferenceIdeal.main_v116) :=
  by
  have eK := final_ternary (KernelIdeal.Tail.writes_ks0 (F := Ideal)) WK 122 (rest := (KernelIdeal.Tail.ks0 (F := Ideal)).drop 123) (wrest := KernelIdeal.Tail.wr_ks0.drop 123) (y := KernelIdeal.main_v142) (c := KernelIdeal.main_v140) (a := KernelIdeal.main_v134) (b := KernelIdeal.main_call8_v1) rfl rfl (by decide +kernel) (by decide +kernel) (by decide +kernel) (by decide +kernel)
  have eR := final_ternary (ReferenceIdeal.Hand.writes_tlOps0 (F := Ideal)) WR 117 (rest := (ReferenceIdeal.Hand.tlOps0 (F := Ideal)).drop 118) (wrest := ReferenceIdeal.Hand.wr_tlOps0.drop 118) (y := ReferenceIdeal.main_v116) (c := ReferenceIdeal.main_v114) (a := ReferenceIdeal.main_v108) (b := ReferenceIdeal.main_call9_v1) rfl rfl (by decide +kernel) (by decide +kernel) (by decide +kernel) (by decide +kernel)
  rw [eK, eR, h109 WK WR hP hLin hVal, h101 WK WR hP hLin hVal, h116 WK WR hP hLin hVal]
  try rfl
theorem h118 : StableHlo.after (KernelIdeal.Tail.ks0 (F := Ideal)) WK (Proc.devRef .tc KernelIdeal.main_cst_61) = StableHlo.after (ReferenceIdeal.Hand.tlOps0 (F := Ideal)) WR (Proc.devRef .tc ReferenceIdeal.main_cst_41) :=
  by
  have eK := final_nullary (KernelIdeal.Tail.writes_ks0 (F := Ideal)) WK 123 (rest := (KernelIdeal.Tail.ks0 (F := Ideal)).drop 124) (wrest := KernelIdeal.Tail.wr_ks0.drop 124) (y := KernelIdeal.main_cst_61) rfl rfl (by decide +kernel)
  have eR := final_nullary (ReferenceIdeal.Hand.writes_tlOps0 (F := Ideal)) WR 118 (rest := (ReferenceIdeal.Hand.tlOps0 (F := Ideal)).drop 119) (wrest := ReferenceIdeal.Hand.wr_tlOps0.drop 119) (y := ReferenceIdeal.main_cst_41) rfl rfl (by decide +kernel)
  rw [eK, eR]
  try rfl
theorem h119 : StableHlo.after (KernelIdeal.Tail.ks0 (F := Ideal)) WK (Proc.devRef .tc KernelIdeal.main_v143) = StableHlo.after (ReferenceIdeal.Hand.tlOps0 (F := Ideal)) WR (Proc.devRef .tc ReferenceIdeal.main_v117) :=
  by
  have eK := final_unary (KernelIdeal.Tail.writes_ks0 (F := Ideal)) WK 124 (rest := (KernelIdeal.Tail.ks0 (F := Ideal)).drop 125) (wrest := KernelIdeal.Tail.wr_ks0.drop 125) (y := KernelIdeal.main_v143) (x := KernelIdeal.main_cst_61) rfl rfl (by decide +kernel) (by decide +kernel)
  have eR := final_unary (ReferenceIdeal.Hand.writes_tlOps0 (F := Ideal)) WR 119 (rest := (ReferenceIdeal.Hand.tlOps0 (F := Ideal)).drop 120) (wrest := ReferenceIdeal.Hand.wr_tlOps0.drop 120) (y := ReferenceIdeal.main_v117) (x := ReferenceIdeal.main_cst_41) rfl rfl (by decide +kernel) (by decide +kernel)
  rw [eK, eR, h118 WK WR hP hLin hVal]
  try rfl
theorem h120 : StableHlo.after (KernelIdeal.Tail.ks0 (F := Ideal)) WK (Proc.devRef .tc KernelIdeal.main_v144) = StableHlo.after (ReferenceIdeal.Hand.tlOps0 (F := Ideal)) WR (Proc.devRef .tc ReferenceIdeal.main_v118) :=
  by
  have eK := final_unary (KernelIdeal.Tail.writes_ks0 (F := Ideal)) WK 125 (rest := (KernelIdeal.Tail.ks0 (F := Ideal)).drop 126) (wrest := KernelIdeal.Tail.wr_ks0.drop 126) (y := KernelIdeal.main_v144) (x := KernelIdeal.main_v140) rfl rfl (by decide +kernel) (by decide +kernel)
  have eR := final_unary (ReferenceIdeal.Hand.writes_tlOps0 (F := Ideal)) WR 120 (rest := (ReferenceIdeal.Hand.tlOps0 (F := Ideal)).drop 121) (wrest := ReferenceIdeal.Hand.wr_tlOps0.drop 121) (y := ReferenceIdeal.main_v118) (x := ReferenceIdeal.main_v114) rfl rfl (by decide +kernel) (by decide +kernel)
  rw [eK, eR, h109 WK WR hP hLin hVal]
  try rfl
theorem h121 : StableHlo.after (KernelIdeal.Tail.ks0 (F := Ideal)) WK (Proc.devRef .tc KernelIdeal.main_cst_62) = StableHlo.after (ReferenceIdeal.Hand.tlOps0 (F := Ideal)) WR (Proc.devRef .tc ReferenceIdeal.main_cst_42) :=
  by
  have eK := final_nullary (KernelIdeal.Tail.writes_ks0 (F := Ideal)) WK 126 (rest := (KernelIdeal.Tail.ks0 (F := Ideal)).drop 127) (wrest := KernelIdeal.Tail.wr_ks0.drop 127) (y := KernelIdeal.main_cst_62) rfl rfl (by decide +kernel)
  have eR := final_nullary (ReferenceIdeal.Hand.writes_tlOps0 (F := Ideal)) WR 121 (rest := (ReferenceIdeal.Hand.tlOps0 (F := Ideal)).drop 122) (wrest := ReferenceIdeal.Hand.wr_tlOps0.drop 122) (y := ReferenceIdeal.main_cst_42) rfl rfl (by decide +kernel)
  rw [eK, eR]
  try rfl
theorem h122 : StableHlo.after (KernelIdeal.Tail.ks0 (F := Ideal)) WK (Proc.devRef .tc KernelIdeal.main_call9_v0) = StableHlo.after (ReferenceIdeal.Hand.tlOps0 (F := Ideal)) WR (Proc.devRef .tc ReferenceIdeal.main_call10_v0) :=
  by
  have eK := final_unary (KernelIdeal.Tail.writes_ks0 (F := Ideal)) WK 127 (rest := (KernelIdeal.Tail.ks0 (F := Ideal)).drop 128) (wrest := KernelIdeal.Tail.wr_ks0.drop 128) (y := KernelIdeal.main_call9_v0) (x := KernelIdeal.main_cst_62) rfl rfl (by decide +kernel) (by decide +kernel)
  have eR := final_unary (ReferenceIdeal.Hand.writes_tlOps0 (F := Ideal)) WR 122 (rest := (ReferenceIdeal.Hand.tlOps0 (F := Ideal)).drop 123) (wrest := ReferenceIdeal.Hand.wr_tlOps0.drop 123) (y := ReferenceIdeal.main_call10_v0) (x := ReferenceIdeal.main_cst_42) rfl rfl (by decide +kernel) (by decide +kernel)
  rw [eK, eR, h121 WK WR hP hLin hVal]
  try rfl
theorem h123 : StableHlo.after (KernelIdeal.Tail.ks0 (F := Ideal)) WK (Proc.devRef .tc KernelIdeal.main_call9_v1) = StableHlo.after (ReferenceIdeal.Hand.tlOps0 (F := Ideal)) WR (Proc.devRef .tc ReferenceIdeal.main_call10_v1) :=
  by
  have eK := final_unary (KernelIdeal.Tail.writes_ks0 (F := Ideal)) WK 128 (rest := (KernelIdeal.Tail.ks0 (F := Ideal)).drop 129) (wrest := KernelIdeal.Tail.wr_ks0.drop 129) (y := KernelIdeal.main_call9_v1) (x := KernelIdeal.main_v144) rfl rfl (by decide +kernel) (by decide +kernel)
  have eR := final_unary (ReferenceIdeal.Hand.writes_tlOps0 (F := Ideal)) WR 123 (rest := (ReferenceIdeal.Hand.tlOps0 (F := Ideal)).drop 124) (wrest := ReferenceIdeal.Hand.wr_tlOps0.drop 124) (y := ReferenceIdeal.main_call10_v1) (x := ReferenceIdeal.main_v118) rfl rfl (by decide +kernel) (by decide +kernel)
  rw [eK, eR, h120 WK WR hP hLin hVal]
  try rfl
theorem h124 : StableHlo.after (KernelIdeal.Tail.ks0 (F := Ideal)) WK (Proc.devRef .tc KernelIdeal.main_call9_v2) = StableHlo.after (ReferenceIdeal.Hand.tlOps0 (F := Ideal)) WR (Proc.devRef .tc ReferenceIdeal.main_call10_v2) :=
  by
  have eK := final_unary (KernelIdeal.Tail.writes_ks0 (F := Ideal)) WK 129 (rest := (KernelIdeal.Tail.ks0 (F := Ideal)).drop 130) (wrest := KernelIdeal.Tail.wr_ks0.drop 130) (y := KernelIdeal.main_call9_v2) (x := KernelIdeal.main_call9_v0) rfl rfl (by decide +kernel) (by decide +kernel)
  have eR := final_unary (ReferenceIdeal.Hand.writes_tlOps0 (F := Ideal)) WR 124 (rest := (ReferenceIdeal.Hand.tlOps0 (F := Ideal)).drop 125) (wrest := ReferenceIdeal.Hand.wr_tlOps0.drop 125) (y := ReferenceIdeal.main_call10_v2) (x := ReferenceIdeal.main_call10_v0) rfl rfl (by decide +kernel) (by decide +kernel)
  rw [eK, eR, h122 WK WR hP hLin hVal]
  try rfl
theorem h125 : StableHlo.after (KernelIdeal.Tail.ks0 (F := Ideal)) WK (Proc.devRef .tc KernelIdeal.main_v145) = StableHlo.after (ReferenceIdeal.Hand.tlOps0 (F := Ideal)) WR (Proc.devRef .tc ReferenceIdeal.main_v119) :=
  by
  have eK := final_ternary (KernelIdeal.Tail.writes_ks0 (F := Ideal)) WK 130 (rest := (KernelIdeal.Tail.ks0 (F := Ideal)).drop 131) (wrest := KernelIdeal.Tail.wr_ks0.drop 131) (y := KernelIdeal.main_v145) (c := KernelIdeal.main_call9_v1) (a := KernelIdeal.main_v13) (b := KernelIdeal.main_call9_v2) rfl rfl (by decide +kernel) (by decide +kernel) (by decide +kernel) (by decide +kernel)
  have eR := final_ternary (ReferenceIdeal.Hand.writes_tlOps0 (F := Ideal)) WR 125 (rest := (ReferenceIdeal.Hand.tlOps0 (F := Ideal)).drop 126) (wrest := ReferenceIdeal.Hand.wr_tlOps0.drop 126) (y := ReferenceIdeal.main_v119) (c := ReferenceIdeal.main_call10_v1) (a := ReferenceIdeal.main_v13) (b := ReferenceIdeal.main_call10_v2) rfl rfl (by decide +kernel) (by decide +kernel) (by decide +kernel) (by decide +kernel)
  rw [eK, eR, h123 WK WR hP hLin hVal, hP, h124 WK WR hP hLin hVal]
  try rfl
theorem h126 : StableHlo.after (KernelIdeal.Tail.ks0 (F := Ideal)) WK (Proc.devRef .tc KernelIdeal.main_c_63) = StableHlo.after (ReferenceIdeal.Hand.tlOps0 (F := Ideal)) WR (Proc.devRef .tc ReferenceIdeal.main_c_43) :=
  by
  have eK := final_nullary (KernelIdeal.Tail.writes_ks0 (F := Ideal)) WK 131 (rest := (KernelIdeal.Tail.ks0 (F := Ideal)).drop 132) (wrest := KernelIdeal.Tail.wr_ks0.drop 132) (y := KernelIdeal.main_c_63) rfl rfl (by decide +kernel)
  have eR := final_nullary (ReferenceIdeal.Hand.writes_tlOps0 (F := Ideal)) WR 126 (rest := (ReferenceIdeal.Hand.tlOps0 (F := Ideal)).drop 127) (wrest := ReferenceIdeal.Hand.wr_tlOps0.drop 127) (y := ReferenceIdeal.main_c_43) rfl rfl (by decide +kernel)
  rw [eK, eR]
  try rfl
theorem h127 : StableHlo.after (KernelIdeal.Tail.ks0 (F := Ideal)) WK (Proc.devRef .tc KernelIdeal.main_v146) = StableHlo.after (ReferenceIdeal.Hand.tlOps0 (F := Ideal)) WR (Proc.devRef .tc ReferenceIdeal.main_v120) :=
  by
  have eK := final_unary (KernelIdeal.Tail.writes_ks0 (F := Ideal)) WK 132 (rest := (KernelIdeal.Tail.ks0 (F := Ideal)).drop 133) (wrest := KernelIdeal.Tail.wr_ks0.drop 133) (y := KernelIdeal.main_v146) (x := KernelIdeal.main_c_63) rfl rfl (by decide +kernel) (by decide +kernel)
  have eR := final_unary (ReferenceIdeal.Hand.writes_tlOps0 (F := Ideal)) WR 127 (rest := (ReferenceIdeal.Hand.tlOps0 (F := Ideal)).drop 128) (wrest := ReferenceIdeal.Hand.wr_tlOps0.drop 128) (y := ReferenceIdeal.main_v120) (x := ReferenceIdeal.main_c_43) rfl rfl (by decide +kernel) (by decide +kernel)
  rw [eK, eR, h126 WK WR hP hLin hVal]
  try rfl
theorem h128 : StableHlo.after (KernelIdeal.Tail.ks0 (F := Ideal)) WK (Proc.devRef .tc KernelIdeal.main_v147) = StableHlo.after (ReferenceIdeal.Hand.tlOps0 (F := Ideal)) WR (Proc.devRef .tc ReferenceIdeal.main_v121) :=
  by
  have eK := final_binary (KernelIdeal.Tail.writes_ks0 (F := Ideal)) WK 133 (rest := (KernelIdeal.Tail.ks0 (F := Ideal)).drop 134) (wrest := KernelIdeal.Tail.wr_ks0.drop 134) (y := KernelIdeal.main_v147) (a := KernelIdeal.main_v141) (b := KernelIdeal.main_v146) rfl rfl (by decide +kernel) (by decide +kernel) (by decide +kernel)
  have eR := final_binary (ReferenceIdeal.Hand.writes_tlOps0 (F := Ideal)) WR 128 (rest := (ReferenceIdeal.Hand.tlOps0 (F := Ideal)).drop 129) (wrest := ReferenceIdeal.Hand.wr_tlOps0.drop 129) (y := ReferenceIdeal.main_v121) (a := ReferenceIdeal.main_v115) (b := ReferenceIdeal.main_v120) rfl rfl (by decide +kernel) (by decide +kernel) (by decide +kernel)
  rw [eK, eR, h113 WK WR hP hLin hVal, h127 WK WR hP hLin hVal]
  try rfl
theorem h129 : StableHlo.after (KernelIdeal.Tail.ks0 (F := Ideal)) WK (Proc.devRef .tc KernelIdeal.main_c_64) = StableHlo.after (ReferenceIdeal.Hand.tlOps0 (F := Ideal)) WR (Proc.devRef .tc ReferenceIdeal.main_c_44) :=
  by
  have eK := final_nullary (KernelIdeal.Tail.writes_ks0 (F := Ideal)) WK 134 (rest := (KernelIdeal.Tail.ks0 (F := Ideal)).drop 135) (wrest := KernelIdeal.Tail.wr_ks0.drop 135) (y := KernelIdeal.main_c_64) rfl rfl (by decide +kernel)
  have eR := final_nullary (ReferenceIdeal.Hand.writes_tlOps0 (F := Ideal)) WR 129 (rest := (ReferenceIdeal.Hand.tlOps0 (F := Ideal)).drop 130) (wrest := ReferenceIdeal.Hand.wr_tlOps0.drop 130) (y := ReferenceIdeal.main_c_44) rfl rfl (by decide +kernel)
  rw [eK, eR]
  try rfl
theorem h130 : StableHlo.after (KernelIdeal.Tail.ks0 (F := Ideal)) WK (Proc.devRef .tc KernelIdeal.main_v148) = StableHlo.after (ReferenceIdeal.Hand.tlOps0 (F := Ideal)) WR (Proc.devRef .tc ReferenceIdeal.main_v122) :=
  by
  have eK := final_unary (KernelIdeal.Tail.writes_ks0 (F := Ideal)) WK 135 (rest := (KernelIdeal.Tail.ks0 (F := Ideal)).drop 136) (wrest := KernelIdeal.Tail.wr_ks0.drop 136) (y := KernelIdeal.main_v148) (x := KernelIdeal.main_c_64) rfl rfl (by decide +kernel) (by decide +kernel)
  have eR := final_unary (ReferenceIdeal.Hand.writes_tlOps0 (F := Ideal)) WR 130 (rest := (ReferenceIdeal.Hand.tlOps0 (F := Ideal)).drop 131) (wrest := ReferenceIdeal.Hand.wr_tlOps0.drop 131) (y := ReferenceIdeal.main_v122) (x := ReferenceIdeal.main_c_44) rfl rfl (by decide +kernel) (by decide +kernel)
  rw [eK, eR, h129 WK WR hP hLin hVal]
  try rfl
theorem h131 : StableHlo.after (KernelIdeal.Tail.ks0 (F := Ideal)) WK (Proc.devRef .tc KernelIdeal.main_v149) = StableHlo.after (ReferenceIdeal.Hand.tlOps0 (F := Ideal)) WR (Proc.devRef .tc ReferenceIdeal.main_v123) :=
  by
  have eK := final_binary (KernelIdeal.Tail.writes_ks0 (F := Ideal)) WK 136 (rest := (KernelIdeal.Tail.ks0 (F := Ideal)).drop 137) (wrest := KernelIdeal.Tail.wr_ks0.drop 137) (y := KernelIdeal.main_v149) (a := KernelIdeal.main_v141) (b := KernelIdeal.main_v148) rfl rfl (by decide +kernel) (by decide +kernel) (by decide +kernel)
  have eR := final_binary (ReferenceIdeal.Hand.writes_tlOps0 (F := Ideal)) WR 131 (rest := (ReferenceIdeal.Hand.tlOps0 (F := Ideal)).drop 132) (wrest := ReferenceIdeal.Hand.wr_tlOps0.drop 132) (y := ReferenceIdeal.main_v123) (a := ReferenceIdeal.main_v115) (b := ReferenceIdeal.main_v122) rfl rfl (by decide +kernel) (by decide +kernel) (by decide +kernel)
  rw [eK, eR, h113 WK WR hP hLin hVal, h130 WK WR hP hLin hVal]
  try rfl
theorem h132 : StableHlo.after (KernelIdeal.Tail.ks0 (F := Ideal)) WK (Proc.devRef .tc KernelIdeal.main_v150) = StableHlo.after (ReferenceIdeal.Hand.tlOps0 (F := Ideal)) WR (Proc.devRef .tc ReferenceIdeal.main_v124) :=
  by
  have eK := final_ternary (KernelIdeal.Tail.writes_ks0 (F := Ideal)) WK 137 (rest := (KernelIdeal.Tail.ks0 (F := Ideal)).drop 138) (wrest := KernelIdeal.Tail.wr_ks0.drop 138) (y := KernelIdeal.main_v150) (c := KernelIdeal.main_v147) (a := KernelIdeal.main_v149) (b := KernelIdeal.main_v141) rfl rfl (by decide +kernel) (by decide +kernel) (by decide +kernel) (by decide +kernel)
  have eR := final_ternary (ReferenceIdeal.Hand.writes_tlOps0 (F := Ideal)) WR 132 (rest := (ReferenceIdeal.Hand.tlOps0 (F := Ideal)).drop 133) (wrest := ReferenceIdeal.Hand.wr_tlOps0.drop 133) (y := ReferenceIdeal.main_v124) (c := ReferenceIdeal.main_v121) (a := ReferenceIdeal.main_v123) (b := ReferenceIdeal.main_v115) rfl rfl (by decide +kernel) (by decide +kernel) (by decide +kernel) (by decide +kernel)
  rw [eK, eR, h128 WK WR hP hLin hVal, h131 WK WR hP hLin hVal, h113 WK WR hP hLin hVal]
  try rfl
theorem h133 : StableHlo.after (KernelIdeal.Tail.ks0 (F := Ideal)) WK (Proc.devRef .tc KernelIdeal.main_c_65) = StableHlo.after (ReferenceIdeal.Hand.tlOps0 (F := Ideal)) WR (Proc.devRef .tc ReferenceIdeal.main_c_45) :=
  by
  have eK := final_nullary (KernelIdeal.Tail.writes_ks0 (F := Ideal)) WK 138 (rest := (KernelIdeal.Tail.ks0 (F := Ideal)).drop 139) (wrest := KernelIdeal.Tail.wr_ks0.drop 139) (y := KernelIdeal.main_c_65) rfl rfl (by decide +kernel)
  have eR := final_nullary (ReferenceIdeal.Hand.writes_tlOps0 (F := Ideal)) WR 133 (rest := (ReferenceIdeal.Hand.tlOps0 (F := Ideal)).drop 134) (wrest := ReferenceIdeal.Hand.wr_tlOps0.drop 134) (y := ReferenceIdeal.main_c_45) rfl rfl (by decide +kernel)
  rw [eK, eR]
  try rfl
theorem h134 : StableHlo.after (KernelIdeal.Tail.ks0 (F := Ideal)) WK (Proc.devRef .tc KernelIdeal.main_v151) = StableHlo.after (ReferenceIdeal.Hand.tlOps0 (F := Ideal)) WR (Proc.devRef .tc ReferenceIdeal.main_v125) :=
  by
  have eK := final_unary (KernelIdeal.Tail.writes_ks0 (F := Ideal)) WK 139 (rest := (KernelIdeal.Tail.ks0 (F := Ideal)).drop 140) (wrest := KernelIdeal.Tail.wr_ks0.drop 140) (y := KernelIdeal.main_v151) (x := KernelIdeal.main_c_65) rfl rfl (by decide +kernel) (by decide +kernel)
  have eR := final_unary (ReferenceIdeal.Hand.writes_tlOps0 (F := Ideal)) WR 134 (rest := (ReferenceIdeal.Hand.tlOps0 (F := Ideal)).drop 135) (wrest := ReferenceIdeal.Hand.wr_tlOps0.drop 135) (y := ReferenceIdeal.main_v125) (x := ReferenceIdeal.main_c_45) rfl rfl (by decide +kernel) (by decide +kernel)
  rw [eK, eR, h133 WK WR hP hLin hVal]
  try rfl
theorem h135 : StableHlo.after (KernelIdeal.Tail.ks0 (F := Ideal)) WK (Proc.devRef .tc KernelIdeal.main_v152) = StableHlo.after (ReferenceIdeal.Hand.tlOps0 (F := Ideal)) WR (Proc.devRef .tc ReferenceIdeal.main_v126) :=
  by
  have eK := final_binary (KernelIdeal.Tail.writes_ks0 (F := Ideal)) WK 140 (rest := (KernelIdeal.Tail.ks0 (F := Ideal)).drop 141) (wrest := KernelIdeal.Tail.wr_ks0.drop 141) (y := KernelIdeal.main_v152) (a := KernelIdeal.main_v142) (b := KernelIdeal.main_v151) rfl rfl (by decide +kernel) (by decide +kernel) (by decide +kernel)
  have eR := final_binary (ReferenceIdeal.Hand.writes_tlOps0 (F := Ideal)) WR 135 (rest := (ReferenceIdeal.Hand.tlOps0 (F := Ideal)).drop 136) (wrest := ReferenceIdeal.Hand.wr_tlOps0.drop 136) (y := ReferenceIdeal.main_v126) (a := ReferenceIdeal.main_v116) (b := ReferenceIdeal.main_v125) rfl rfl (by decide +kernel) (by decide +kernel) (by decide +kernel)
  rw [eK, eR, h117 WK WR hP hLin hVal, h134 WK WR hP hLin hVal]
  try rfl
theorem h136 : StableHlo.after (KernelIdeal.Tail.ks0 (F := Ideal)) WK (Proc.devRef .tc KernelIdeal.main_c_66) = StableHlo.after (ReferenceIdeal.Hand.tlOps0 (F := Ideal)) WR (Proc.devRef .tc ReferenceIdeal.main_c_46) :=
  by
  have eK := final_nullary (KernelIdeal.Tail.writes_ks0 (F := Ideal)) WK 141 (rest := (KernelIdeal.Tail.ks0 (F := Ideal)).drop 142) (wrest := KernelIdeal.Tail.wr_ks0.drop 142) (y := KernelIdeal.main_c_66) rfl rfl (by decide +kernel)
  have eR := final_nullary (ReferenceIdeal.Hand.writes_tlOps0 (F := Ideal)) WR 136 (rest := (ReferenceIdeal.Hand.tlOps0 (F := Ideal)).drop 137) (wrest := ReferenceIdeal.Hand.wr_tlOps0.drop 137) (y := ReferenceIdeal.main_c_46) rfl rfl (by decide +kernel)
  rw [eK, eR]
  try rfl
theorem h137 : StableHlo.after (KernelIdeal.Tail.ks0 (F := Ideal)) WK (Proc.devRef .tc KernelIdeal.main_v153) = StableHlo.after (ReferenceIdeal.Hand.tlOps0 (F := Ideal)) WR (Proc.devRef .tc ReferenceIdeal.main_v127) :=
  by
  have eK := final_unary (KernelIdeal.Tail.writes_ks0 (F := Ideal)) WK 142 (rest := (KernelIdeal.Tail.ks0 (F := Ideal)).drop 143) (wrest := KernelIdeal.Tail.wr_ks0.drop 143) (y := KernelIdeal.main_v153) (x := KernelIdeal.main_c_66) rfl rfl (by decide +kernel) (by decide +kernel)
  have eR := final_unary (ReferenceIdeal.Hand.writes_tlOps0 (F := Ideal)) WR 137 (rest := (ReferenceIdeal.Hand.tlOps0 (F := Ideal)).drop 138) (wrest := ReferenceIdeal.Hand.wr_tlOps0.drop 138) (y := ReferenceIdeal.main_v127) (x := ReferenceIdeal.main_c_46) rfl rfl (by decide +kernel) (by decide +kernel)
  rw [eK, eR, h136 WK WR hP hLin hVal]
  try rfl
theorem h138 : StableHlo.after (KernelIdeal.Tail.ks0 (F := Ideal)) WK (Proc.devRef .tc KernelIdeal.main_v154) = StableHlo.after (ReferenceIdeal.Hand.tlOps0 (F := Ideal)) WR (Proc.devRef .tc ReferenceIdeal.main_v128) :=
  by
  have eK := final_binary (KernelIdeal.Tail.writes_ks0 (F := Ideal)) WK 143 (rest := (KernelIdeal.Tail.ks0 (F := Ideal)).drop 144) (wrest := KernelIdeal.Tail.wr_ks0.drop 144) (y := KernelIdeal.main_v154) (a := KernelIdeal.main_v142) (b := KernelIdeal.main_v153) rfl rfl (by decide +kernel) (by decide +kernel) (by decide +kernel)
  have eR := final_binary (ReferenceIdeal.Hand.writes_tlOps0 (F := Ideal)) WR 138 (rest := (ReferenceIdeal.Hand.tlOps0 (F := Ideal)).drop 139) (wrest := ReferenceIdeal.Hand.wr_tlOps0.drop 139) (y := ReferenceIdeal.main_v128) (a := ReferenceIdeal.main_v116) (b := ReferenceIdeal.main_v127) rfl rfl (by decide +kernel) (by decide +kernel) (by decide +kernel)
  rw [eK, eR, h117 WK WR hP hLin hVal, h137 WK WR hP hLin hVal]
  try rfl
theorem h139 : StableHlo.after (KernelIdeal.Tail.ks0 (F := Ideal)) WK (Proc.devRef .tc KernelIdeal.main_v155) = StableHlo.after (ReferenceIdeal.Hand.tlOps0 (F := Ideal)) WR (Proc.devRef .tc ReferenceIdeal.main_v129) :=
  by
  have eK := final_ternary (KernelIdeal.Tail.writes_ks0 (F := Ideal)) WK 144 (rest := (KernelIdeal.Tail.ks0 (F := Ideal)).drop 145) (wrest := KernelIdeal.Tail.wr_ks0.drop 145) (y := KernelIdeal.main_v155) (c := KernelIdeal.main_v152) (a := KernelIdeal.main_v154) (b := KernelIdeal.main_v142) rfl rfl (by decide +kernel) (by decide +kernel) (by decide +kernel) (by decide +kernel)
  have eR := final_ternary (ReferenceIdeal.Hand.writes_tlOps0 (F := Ideal)) WR 139 (rest := (ReferenceIdeal.Hand.tlOps0 (F := Ideal)).drop 140) (wrest := ReferenceIdeal.Hand.wr_tlOps0.drop 140) (y := ReferenceIdeal.main_v129) (c := ReferenceIdeal.main_v126) (a := ReferenceIdeal.main_v128) (b := ReferenceIdeal.main_v116) rfl rfl (by decide +kernel) (by decide +kernel) (by decide +kernel) (by decide +kernel)
  rw [eK, eR, h135 WK WR hP hLin hVal, h138 WK WR hP hLin hVal, h117 WK WR hP hLin hVal]
  try rfl
theorem h140 : StableHlo.after (KernelIdeal.Tail.ks0 (F := Ideal)) WK (Proc.devRef .tc KernelIdeal.main_v156) = StableHlo.after (ReferenceIdeal.Hand.tlOps0 (F := Ideal)) WR (Proc.devRef .tc ReferenceIdeal.main_v130) :=
  by
  have eK := final_unary (KernelIdeal.Tail.writes_ks0 (F := Ideal)) WK 145 (rest := (KernelIdeal.Tail.ks0 (F := Ideal)).drop 146) (wrest := KernelIdeal.Tail.wr_ks0.drop 146) (y := KernelIdeal.main_v156) (x := KernelIdeal.main_v150) rfl rfl (by decide +kernel) (by decide +kernel)
  have eR := final_unary (ReferenceIdeal.Hand.writes_tlOps0 (F := Ideal)) WR 140 (rest := (ReferenceIdeal.Hand.tlOps0 (F := Ideal)).drop 141) (wrest := ReferenceIdeal.Hand.wr_tlOps0.drop 141) (y := ReferenceIdeal.main_v130) (x := ReferenceIdeal.main_v124) rfl rfl (by decide +kernel) (by decide +kernel)
  rw [eK, eR, h132 WK WR hP hLin hVal]
  try rfl
theorem h141 : StableHlo.after (KernelIdeal.Tail.ks0 (F := Ideal)) WK (Proc.devRef .tc KernelIdeal.main_v157) = StableHlo.after (ReferenceIdeal.Hand.tlOps0 (F := Ideal)) WR (Proc.devRef .tc ReferenceIdeal.main_v131) :=
  by
  have eK := final_unary (KernelIdeal.Tail.writes_ks0 (F := Ideal)) WK 146 (rest := (KernelIdeal.Tail.ks0 (F := Ideal)).drop 147) (wrest := KernelIdeal.Tail.wr_ks0.drop 147) (y := KernelIdeal.main_v157) (x := KernelIdeal.main_v155) rfl rfl (by decide +kernel) (by decide +kernel)
  have eR := final_unary (ReferenceIdeal.Hand.writes_tlOps0 (F := Ideal)) WR 141 (rest := (ReferenceIdeal.Hand.tlOps0 (F := Ideal)).drop 142) (wrest := ReferenceIdeal.Hand.wr_tlOps0.drop 142) (y := ReferenceIdeal.main_v131) (x := ReferenceIdeal.main_v129) rfl rfl (by decide +kernel) (by decide +kernel)
  rw [eK, eR, h139 WK WR hP hLin hVal]
  try rfl
theorem h142 : StableHlo.after (KernelIdeal.Tail.ks0 (F := Ideal)) WK (Proc.devRef .tc KernelIdeal.main_v158) = StableHlo.after (ReferenceIdeal.Hand.tlOps0 (F := Ideal)) WR (Proc.devRef .tc ReferenceIdeal.main_v132) :=
  by
  have eK := final_binary (KernelIdeal.Tail.writes_ks0 (F := Ideal)) WK 147 (rest := (KernelIdeal.Tail.ks0 (F := Ideal)).drop 148) (wrest := KernelIdeal.Tail.wr_ks0.drop 148) (y := KernelIdeal.main_v158) (a := KernelIdeal.main_v156) (b := KernelIdeal.main_v157) rfl rfl (by decide +kernel) (by decide +kernel) (by decide +kernel)
  have eR := final_binary (ReferenceIdeal.Hand.writes_tlOps0 (F := Ideal)) WR 142 (rest := (ReferenceIdeal.Hand.tlOps0 (F := Ideal)).drop 143) (wrest := ReferenceIdeal.Hand.wr_tlOps0.drop 143) (y := ReferenceIdeal.main_v132) (a := ReferenceIdeal.main_v130) (b := ReferenceIdeal.main_v131) rfl rfl (by decide +kernel) (by decide +kernel) (by decide +kernel)
  rw [eK, eR, h140 WK WR hP hLin hVal, h141 WK WR hP hLin hVal]
  try rfl
theorem h143 : StableHlo.after (KernelIdeal.Tail.ks0 (F := Ideal)) WK (Proc.devRef .tc KernelIdeal.main_v159) = StableHlo.after (ReferenceIdeal.Hand.tlOps0 (F := Ideal)) WR (Proc.devRef .tc ReferenceIdeal.main_v133) :=
  by
  have eK := final_ternary (KernelIdeal.Tail.writes_ks0 (F := Ideal)) WK 148 (rest := (KernelIdeal.Tail.ks0 (F := Ideal)).drop 149) (wrest := KernelIdeal.Tail.wr_ks0.drop 149) (y := KernelIdeal.main_v159) (c := KernelIdeal.main_v143) (a := KernelIdeal.main_v158) (b := KernelIdeal.main_v145) rfl rfl (by decide +kernel) (by decide +kernel) (by decide +kernel) (by decide +kernel)
  have eR := final_ternary (ReferenceIdeal.Hand.writes_tlOps0 (F := Ideal)) WR 143 (rest := (ReferenceIdeal.Hand.tlOps0 (F := Ideal)).drop 144) (wrest := ReferenceIdeal.Hand.wr_tlOps0.drop 144) (y := ReferenceIdeal.main_v133) (c := ReferenceIdeal.main_v117) (a := ReferenceIdeal.main_v132) (b := ReferenceIdeal.main_v119) rfl rfl (by decide +kernel) (by decide +kernel) (by decide +kernel) (by decide +kernel)
  rw [eK, eR, h119 WK WR hP hLin hVal, h142 WK WR hP hLin hVal, h125 WK WR hP hLin hVal]
  try rfl
theorem h144 : StableHlo.after (KernelIdeal.Tail.ks0 (F := Ideal)) WK (Proc.devRef .tc KernelIdeal.main_v160) = StableHlo.after (ReferenceIdeal.Hand.tlOps0 (F := Ideal)) WR (Proc.devRef .tc ReferenceIdeal.main_v134) :=
  by
  have eK := final_unary (KernelIdeal.Tail.writes_ks0 (F := Ideal)) WK 149 (rest := (KernelIdeal.Tail.ks0 (F := Ideal)).drop 150) (wrest := KernelIdeal.Tail.wr_ks0.drop 150) (y := KernelIdeal.main_v160) (x := KernelIdeal.main_v159) rfl rfl (by decide +kernel) (by decide +kernel)
  have eR := final_unary (ReferenceIdeal.Hand.writes_tlOps0 (F := Ideal)) WR 144 (rest := (ReferenceIdeal.Hand.tlOps0 (F := Ideal)).drop 145) (wrest := ReferenceIdeal.Hand.wr_tlOps0.drop 145) (y := ReferenceIdeal.main_v134) (x := ReferenceIdeal.main_v133) rfl rfl (by decide +kernel) (by decide +kernel)
  rw [eK, eR, h143 WK WR hP hLin hVal]
  try rfl
theorem h145 : StableHlo.after (KernelIdeal.Tail.ks0 (F := Ideal)) WK (Proc.devRef .tc KernelIdeal.main_v161) = StableHlo.after (ReferenceIdeal.Hand.tlOps0 (F := Ideal)) WR (Proc.devRef .tc ReferenceIdeal.main_v135) :=
  by
  have eK := final_unary (KernelIdeal.Tail.writes_ks0 (F := Ideal)) WK 150 (rest := (KernelIdeal.Tail.ks0 (F := Ideal)).drop 151) (wrest := KernelIdeal.Tail.wr_ks0.drop 151) (y := KernelIdeal.main_v161) (x := KernelIdeal.main_v140) rfl rfl (by decide +kernel) (by decide +kernel)
  have eR := final_unary (ReferenceIdeal.Hand.writes_tlOps0 (F := Ideal)) WR 145 (rest := (ReferenceIdeal.Hand.tlOps0 (F := Ideal)).drop 146) (wrest := ReferenceIdeal.Hand.wr_tlOps0.drop 146) (y := ReferenceIdeal.main_v135) (x := ReferenceIdeal.main_v114) rfl rfl (by decide +kernel) (by decide +kernel)
  rw [eK, eR, h109 WK WR hP hLin hVal]
  try rfl
theorem h146 : StableHlo.after (KernelIdeal.Tail.ks0 (F := Ideal)) WK (Proc.devRef .tc KernelIdeal.main_c_67) = StableHlo.after (ReferenceIdeal.Hand.tlOps0 (F := Ideal)) WR (Proc.devRef .tc ReferenceIdeal.main_c_47) :=
  by
  have eK := final_nullary (KernelIdeal.Tail.writes_ks0 (F := Ideal)) WK 151 (rest := (KernelIdeal.Tail.ks0 (F := Ideal)).drop 152) (wrest := KernelIdeal.Tail.wr_ks0.drop 152) (y := KernelIdeal.main_c_67) rfl rfl (by decide +kernel)
  have eR := final_nullary (ReferenceIdeal.Hand.writes_tlOps0 (F := Ideal)) WR 146 (rest := (ReferenceIdeal.Hand.tlOps0 (F := Ideal)).drop 147) (wrest := ReferenceIdeal.Hand.wr_tlOps0.drop 147) (y := ReferenceIdeal.main_c_47) rfl rfl (by decide +kernel)
  rw [eK, eR]
  try rfl
theorem h147 : StableHlo.after (KernelIdeal.Tail.ks0 (F := Ideal)) WK (Proc.devRef .tc KernelIdeal.main_v162) = StableHlo.after (ReferenceIdeal.Hand.tlOps0 (F := Ideal)) WR (Proc.devRef .tc ReferenceIdeal.main_v136) :=
  by
  have eK := final_unary (KernelIdeal.Tail.writes_ks0 (F := Ideal)) WK 152 (rest := (KernelIdeal.Tail.ks0 (F := Ideal)).drop 153) (wrest := KernelIdeal.Tail.wr_ks0.drop 153) (y := KernelIdeal.main_v162) (x := KernelIdeal.main_c_67) rfl rfl (by decide +kernel) (by decide +kernel)
  have eR := final_unary (ReferenceIdeal.Hand.writes_tlOps0 (F := Ideal)) WR 147 (rest := (ReferenceIdeal.Hand.tlOps0 (F := Ideal)).drop 148) (wrest := ReferenceIdeal.Hand.wr_tlOps0.drop 148) (y := ReferenceIdeal.main_v136) (x := ReferenceIdeal.main_c_47) rfl rfl (by decide +kernel) (by decide +kernel)
  rw [eK, eR, h146 WK WR hP hLin hVal]
  try rfl
theorem h148 : StableHlo.after (KernelIdeal.Tail.ks0 (F := Ideal)) WK (Proc.devRef .tc KernelIdeal.main_v163) = StableHlo.after (ReferenceIdeal.Hand.tlOps0 (F := Ideal)) WR (Proc.devRef .tc ReferenceIdeal.main_v137) :=
  by
  have eK := final_unary (KernelIdeal.Tail.writes_ks0 (F := Ideal)) WK 153 (rest := (KernelIdeal.Tail.ks0 (F := Ideal)).drop 154) (wrest := KernelIdeal.Tail.wr_ks0.drop 154) (y := KernelIdeal.main_v163) (x := KernelIdeal.main_v141) rfl rfl (by decide +kernel) (by decide +kernel)
  have eR := final_unary (ReferenceIdeal.Hand.writes_tlOps0 (F := Ideal)) WR 148 (rest := (ReferenceIdeal.Hand.tlOps0 (F := Ideal)).drop 149) (wrest := ReferenceIdeal.Hand.wr_tlOps0.drop 149) (y := ReferenceIdeal.main_v137) (x := ReferenceIdeal.main_v115) rfl rfl (by decide +kernel) (by decide +kernel)
  rw [eK, eR, h113 WK WR hP hLin hVal]
  try rfl
theorem h149 : StableHlo.after (KernelIdeal.Tail.ks0 (F := Ideal)) WK (Proc.devRef .tc KernelIdeal.main_v164) = StableHlo.after (ReferenceIdeal.Hand.tlOps0 (F := Ideal)) WR (Proc.devRef .tc ReferenceIdeal.main_v138) :=
  by
  have eK := final_ternary (KernelIdeal.Tail.writes_ks0 (F := Ideal)) WK 154 (rest := (KernelIdeal.Tail.ks0 (F := Ideal)).drop 155) (wrest := KernelIdeal.Tail.wr_ks0.drop 155) (y := KernelIdeal.main_v164) (c := KernelIdeal.main_v162) (a := KernelIdeal.main_v163) (b := KernelIdeal.main_v161) rfl rfl (by decide +kernel) (by decide +kernel) (by decide +kernel) (by decide +kernel)
  have eR := final_ternary (ReferenceIdeal.Hand.writes_tlOps0 (F := Ideal)) WR 149 (rest := (ReferenceIdeal.Hand.tlOps0 (F := Ideal)).drop 150) (wrest := ReferenceIdeal.Hand.wr_tlOps0.drop 150) (y := ReferenceIdeal.main_v138) (c := ReferenceIdeal.main_v136) (a := ReferenceIdeal.main_v137) (b := ReferenceIdeal.main_v135) rfl rfl (by decide +kernel) (by decide +kernel) (by decide +kernel) (by decide +kernel)
  rw [eK, eR, h147 WK WR hP hLin hVal, h148 WK WR hP hLin hVal, h145 WK WR hP hLin hVal]
  try rfl
theorem h150 : StableHlo.after (KernelIdeal.Tail.ks0 (F := Ideal)) WK (Proc.devRef .tc KernelIdeal.main_v165) = StableHlo.after (ReferenceIdeal.Hand.tlOps0 (F := Ideal)) WR (Proc.devRef .tc ReferenceIdeal.main_v139) :=
  by
  have eK := final_unary (KernelIdeal.Tail.writes_ks0 (F := Ideal)) WK 155 (rest := (KernelIdeal.Tail.ks0 (F := Ideal)).drop 156) (wrest := KernelIdeal.Tail.wr_ks0.drop 156) (y := KernelIdeal.main_v165) (x := KernelIdeal.main_v164) rfl rfl (by decide +kernel) (by decide +kernel)
  have eR := final_unary (ReferenceIdeal.Hand.writes_tlOps0 (F := Ideal)) WR 150 (rest := (ReferenceIdeal.Hand.tlOps0 (F := Ideal)).drop 151) (wrest := ReferenceIdeal.Hand.wr_tlOps0.drop 151) (y := ReferenceIdeal.main_v139) (x := ReferenceIdeal.main_v138) rfl rfl (by decide +kernel) (by decide +kernel)
  rw [eK, eR, h149 WK WR hP hLin hVal]
  try rfl
theorem h151 : StableHlo.after (KernelIdeal.Tail.ks0 (F := Ideal)) WK (Proc.devRef .tc KernelIdeal.main_c_68) = StableHlo.after (ReferenceIdeal.Hand.tlOps0 (F := Ideal)) WR (Proc.devRef .tc ReferenceIdeal.main_c_48) :=
  by
  have eK := final_nullary (KernelIdeal.Tail.writes_ks0 (F := Ideal)) WK 156 (rest := (KernelIdeal.Tail.ks0 (F := Ideal)).drop 157) (wrest := KernelIdeal.Tail.wr_ks0.drop 157) (y := KernelIdeal.main_c_68) rfl rfl (by decide +kernel)
  have eR := final_nullary (ReferenceIdeal.Hand.writes_tlOps0 (F := Ideal)) WR 151 (rest := (ReferenceIdeal.Hand.tlOps0 (F := Ideal)).drop 152) (wrest := ReferenceIdeal.Hand.wr_tlOps0.drop 152) (y := ReferenceIdeal.main_c_48) rfl rfl (by decide +kernel)
  rw [eK, eR]
  try rfl
theorem h152 : StableHlo.after (KernelIdeal.Tail.ks0 (F := Ideal)) WK (Proc.devRef .tc KernelIdeal.main_v166) = StableHlo.after (ReferenceIdeal.Hand.tlOps0 (F := Ideal)) WR (Proc.devRef .tc ReferenceIdeal.main_v140) :=
  by
  have eK := final_unary (KernelIdeal.Tail.writes_ks0 (F := Ideal)) WK 157 (rest := (KernelIdeal.Tail.ks0 (F := Ideal)).drop 158) (wrest := KernelIdeal.Tail.wr_ks0.drop 158) (y := KernelIdeal.main_v166) (x := KernelIdeal.main_c_68) rfl rfl (by decide +kernel) (by decide +kernel)
  have eR := final_unary (ReferenceIdeal.Hand.writes_tlOps0 (F := Ideal)) WR 152 (rest := (ReferenceIdeal.Hand.tlOps0 (F := Ideal)).drop 153) (wrest := ReferenceIdeal.Hand.wr_tlOps0.drop 153) (y := ReferenceIdeal.main_v140) (x := ReferenceIdeal.main_c_48) rfl rfl (by decide +kernel) (by decide +kernel)
  rw [eK, eR, h151 WK WR hP hLin hVal]
  try rfl
theorem h153 : StableHlo.after (KernelIdeal.Tail.ks0 (F := Ideal)) WK (Proc.devRef .tc KernelIdeal.main_c_69) = StableHlo.after (ReferenceIdeal.Hand.tlOps0 (F := Ideal)) WR (Proc.devRef .tc ReferenceIdeal.main_c_49) :=
  by
  have eK := final_nullary (KernelIdeal.Tail.writes_ks0 (F := Ideal)) WK 158 (rest := (KernelIdeal.Tail.ks0 (F := Ideal)).drop 159) (wrest := KernelIdeal.Tail.wr_ks0.drop 159) (y := KernelIdeal.main_c_69) rfl rfl (by decide +kernel)
  have eR := final_nullary (ReferenceIdeal.Hand.writes_tlOps0 (F := Ideal)) WR 153 (rest := (ReferenceIdeal.Hand.tlOps0 (F := Ideal)).drop 154) (wrest := ReferenceIdeal.Hand.wr_tlOps0.drop 154) (y := ReferenceIdeal.main_c_49) rfl rfl (by decide +kernel)
  rw [eK, eR]
  try rfl
theorem h154 : StableHlo.after (KernelIdeal.Tail.ks0 (F := Ideal)) WK (Proc.devRef .tc KernelIdeal.main_v167) = StableHlo.after (ReferenceIdeal.Hand.tlOps0 (F := Ideal)) WR (Proc.devRef .tc ReferenceIdeal.main_v141) :=
  by
  have eK := final_unary (KernelIdeal.Tail.writes_ks0 (F := Ideal)) WK 159 (rest := (KernelIdeal.Tail.ks0 (F := Ideal)).drop 160) (wrest := KernelIdeal.Tail.wr_ks0.drop 160) (y := KernelIdeal.main_v167) (x := KernelIdeal.main_c_69) rfl rfl (by decide +kernel) (by decide +kernel)
  have eR := final_unary (ReferenceIdeal.Hand.writes_tlOps0 (F := Ideal)) WR 154 (rest := (ReferenceIdeal.Hand.tlOps0 (F := Ideal)).drop 155) (wrest := ReferenceIdeal.Hand.wr_tlOps0.drop 155) (y := ReferenceIdeal.main_v141) (x := ReferenceIdeal.main_c_49) rfl rfl (by decide +kernel) (by decide +kernel)
  rw [eK, eR, h153 WK WR hP hLin hVal]
  try rfl
theorem h155 : StableHlo.after (KernelIdeal.Tail.ks0 (F := Ideal)) WK (Proc.devRef .tc KernelIdeal.main_v168) = StableHlo.after (ReferenceIdeal.Hand.tlOps0 (F := Ideal)) WR (Proc.devRef .tc ReferenceIdeal.main_v142) :=
  by
  have eK := final_binary (KernelIdeal.Tail.writes_ks0 (F := Ideal)) WK 160 (rest := (KernelIdeal.Tail.ks0 (F := Ideal)).drop 161) (wrest := KernelIdeal.Tail.wr_ks0.drop 161) (y := KernelIdeal.main_v168) (a := KernelIdeal.main_v90) (b := KernelIdeal.main_v167) rfl rfl (by decide +kernel) (by decide +kernel) (by decide +kernel)
  have eR := final_binary (ReferenceIdeal.Hand.writes_tlOps0 (F := Ideal)) WR 155 (rest := (ReferenceIdeal.Hand.tlOps0 (F := Ideal)).drop 156) (wrest := ReferenceIdeal.Hand.wr_tlOps0.drop 156) (y := ReferenceIdeal.main_v142) (a := ReferenceIdeal.main_v64) (b := ReferenceIdeal.main_v141) rfl rfl (by decide +kernel) (by decide +kernel) (by decide +kernel)
  rw [eK, eR, h29 WK WR hP hLin hVal, h154 WK WR hP hLin hVal]
  try rfl
theorem h156 : StableHlo.after (KernelIdeal.Tail.ks0 (F := Ideal)) WK (Proc.devRef .tc KernelIdeal.main_v169) = StableHlo.after (ReferenceIdeal.Hand.tlOps0 (F := Ideal)) WR (Proc.devRef .tc ReferenceIdeal.main_v143) :=
  by
  have eK := final_binary (KernelIdeal.Tail.writes_ks0 (F := Ideal)) WK 161 (rest := (KernelIdeal.Tail.ks0 (F := Ideal)).drop 162) (wrest := KernelIdeal.Tail.wr_ks0.drop 162) (y := KernelIdeal.main_v169) (a := KernelIdeal.main_v86) (b := KernelIdeal.main_v168) rfl rfl (by decide +kernel) (by decide +kernel) (by decide +kernel)
  have eR := final_binary (ReferenceIdeal.Hand.writes_tlOps0 (F := Ideal)) WR 156 (rest := (ReferenceIdeal.Hand.tlOps0 (F := Ideal)).drop 157) (wrest := ReferenceIdeal.Hand.wr_tlOps0.drop 157) (y := ReferenceIdeal.main_v143) (a := ReferenceIdeal.main_v60) (b := ReferenceIdeal.main_v142) rfl rfl (by decide +kernel) (by decide +kernel) (by decide +kernel)
  rw [eK, eR, h22 WK WR hP hLin hVal, h155 WK WR hP hLin hVal]
  try rfl
theorem h157 : StableHlo.after (KernelIdeal.Tail.ks0 (F := Ideal)) WK (Proc.devRef .tc KernelIdeal.main_c_70) = StableHlo.after (ReferenceIdeal.Hand.tlOps0 (F := Ideal)) WR (Proc.devRef .tc ReferenceIdeal.main_c_50) :=
  by
  have eK := final_nullary (KernelIdeal.Tail.writes_ks0 (F := Ideal)) WK 162 (rest := (KernelIdeal.Tail.ks0 (F := Ideal)).drop 163) (wrest := KernelIdeal.Tail.wr_ks0.drop 163) (y := KernelIdeal.main_c_70) rfl rfl (by decide +kernel)
  have eR := final_nullary (ReferenceIdeal.Hand.writes_tlOps0 (F := Ideal)) WR 157 (rest := (ReferenceIdeal.Hand.tlOps0 (F := Ideal)).drop 158) (wrest := ReferenceIdeal.Hand.wr_tlOps0.drop 158) (y := ReferenceIdeal.main_c_50) rfl rfl (by decide +kernel)
  rw [eK, eR]
  try rfl
theorem h158 : StableHlo.after (KernelIdeal.Tail.ks0 (F := Ideal)) WK (Proc.devRef .tc KernelIdeal.main_call10_v0) = StableHlo.after (ReferenceIdeal.Hand.tlOps0 (F := Ideal)) WR (Proc.devRef .tc ReferenceIdeal.main_call11_v0) :=
  by
  have eK := final_unary (KernelIdeal.Tail.writes_ks0 (F := Ideal)) WK 163 (rest := (KernelIdeal.Tail.ks0 (F := Ideal)).drop 164) (wrest := KernelIdeal.Tail.wr_ks0.drop 164) (y := KernelIdeal.main_call10_v0) (x := KernelIdeal.main_c_70) rfl rfl (by decide +kernel) (by decide +kernel)
  have eR := final_unary (ReferenceIdeal.Hand.writes_tlOps0 (F := Ideal)) WR 158 (rest := (ReferenceIdeal.Hand.tlOps0 (F := Ideal)).drop 159) (wrest := ReferenceIdeal.Hand.wr_tlOps0.drop 159) (y := ReferenceIdeal.main_call11_v0) (x := ReferenceIdeal.main_c_50) rfl rfl (by decide +kernel) (by decide +kernel)
  rw [eK, eR, h157 WK WR hP hLin hVal]
  try rfl
theorem h159 : StableHlo.after (KernelIdeal.Tail.ks0 (F := Ideal)) WK (Proc.devRef .tc KernelIdeal.main_call10_v1) = StableHlo.after (ReferenceIdeal.Hand.tlOps0 (F := Ideal)) WR (Proc.devRef .tc ReferenceIdeal.main_call11_v1) :=
  by
  have eK := final_unary (KernelIdeal.Tail.writes_ks0 (F := Ideal)) WK 164 (rest := (KernelIdeal.Tail.ks0 (F := Ideal)).drop 165) (wrest := KernelIdeal.Tail.wr_ks0.drop 165) (y := KernelIdeal.main_call10_v1) (x := KernelIdeal.main_call10_v0) rfl rfl (by decide +kernel) (by decide +kernel)
  have eR := final_unary (ReferenceIdeal.Hand.writes_tlOps0 (F := Ideal)) WR 159 (rest := (ReferenceIdeal.Hand.tlOps0 (F := Ideal)).drop 160) (wrest := ReferenceIdeal.Hand.wr_tlOps0.drop 160) (y := ReferenceIdeal.main_call11_v1) (x := ReferenceIdeal.main_call11_v0) rfl rfl (by decide +kernel) (by decide +kernel)
  rw [eK, eR, h158 WK WR hP hLin hVal]
  try rfl
theorem h160 : StableHlo.after (KernelIdeal.Tail.ks0 (F := Ideal)) WK (Proc.devRef .tc KernelIdeal.main_v170) = StableHlo.after (ReferenceIdeal.Hand.tlOps0 (F := Ideal)) WR (Proc.devRef .tc ReferenceIdeal.main_v144) :=
  by
  have eK := final_ternary (KernelIdeal.Tail.writes_ks0 (F := Ideal)) WK 165 (rest := (KernelIdeal.Tail.ks0 (F := Ideal)).drop 166) (wrest := KernelIdeal.Tail.wr_ks0.drop 166) (y := KernelIdeal.main_v170) (c := KernelIdeal.main_v169) (a := KernelIdeal.main_v90) (b := KernelIdeal.main_call10_v1) rfl rfl (by decide +kernel) (by decide +kernel) (by decide +kernel) (by decide +kernel)
  have eR := final_ternary (ReferenceIdeal.Hand.writes_tlOps0 (F := Ideal)) WR 160 (rest := (ReferenceIdeal.Hand.tlOps0 (F := Ideal)).drop 161) (wrest := ReferenceIdeal.Hand.wr_tlOps0.drop 161) (y := ReferenceIdeal.main_v144) (c := ReferenceIdeal.main_v143) (a := ReferenceIdeal.main_v64) (b := ReferenceIdeal.main_call11_v1) rfl rfl (by decide +kernel) (by decide +kernel) (by decide +kernel) (by decide +kernel)
  rw [eK, eR, h156 WK WR hP hLin hVal, h29 WK WR hP hLin hVal, h159 WK WR hP hLin hVal]
  try rfl
theorem h161 : StableHlo.after (KernelIdeal.Tail.ks0 (F := Ideal)) WK (Proc.devRef .tc KernelIdeal.main_c_71) = StableHlo.after (ReferenceIdeal.Hand.tlOps0 (F := Ideal)) WR (Proc.devRef .tc ReferenceIdeal.main_c_51) :=
  by
  have eK := final_nullary (KernelIdeal.Tail.writes_ks0 (F := Ideal)) WK 166 (rest := (KernelIdeal.Tail.ks0 (F := Ideal)).drop 167) (wrest := KernelIdeal.Tail.wr_ks0.drop 167) (y := KernelIdeal.main_c_71) rfl rfl (by decide +kernel)
  have eR := final_nullary (ReferenceIdeal.Hand.writes_tlOps0 (F := Ideal)) WR 161 (rest := (ReferenceIdeal.Hand.tlOps0 (F := Ideal)).drop 162) (wrest := ReferenceIdeal.Hand.wr_tlOps0.drop 162) (y := ReferenceIdeal.main_c_51) rfl rfl (by decide +kernel)
  rw [eK, eR]
  try rfl
theorem h162 : StableHlo.after (KernelIdeal.Tail.ks0 (F := Ideal)) WK (Proc.devRef .tc KernelIdeal.main_v171) = StableHlo.after (ReferenceIdeal.Hand.tlOps0 (F := Ideal)) WR (Proc.devRef .tc ReferenceIdeal.main_v145) :=
  by
  have eK := final_unary (KernelIdeal.Tail.writes_ks0 (F := Ideal)) WK 167 (rest := (KernelIdeal.Tail.ks0 (F := Ideal)).drop 168) (wrest := KernelIdeal.Tail.wr_ks0.drop 168) (y := KernelIdeal.main_v171) (x := KernelIdeal.main_c_71) rfl rfl (by decide +kernel) (by decide +kernel)
  have eR := final_unary (ReferenceIdeal.Hand.writes_tlOps0 (F := Ideal)) WR 162 (rest := (ReferenceIdeal.Hand.tlOps0 (F := Ideal)).drop 163) (wrest := ReferenceIdeal.Hand.wr_tlOps0.drop 163) (y := ReferenceIdeal.main_v145) (x := ReferenceIdeal.main_c_51) rfl rfl (by decide +kernel) (by decide +kernel)
  rw [eK, eR, h161 WK WR hP hLin hVal]
  try rfl
theorem h163 : StableHlo.after (KernelIdeal.Tail.ks0 (F := Ideal)) WK (Proc.devRef .tc KernelIdeal.main_v172) = StableHlo.after (ReferenceIdeal.Hand.tlOps0 (F := Ideal)) WR (Proc.devRef .tc ReferenceIdeal.main_v146) :=
  by
  have eK := final_binary (KernelIdeal.Tail.writes_ks0 (F := Ideal)) WK 168 (rest := (KernelIdeal.Tail.ks0 (F := Ideal)).drop 169) (wrest := KernelIdeal.Tail.wr_ks0.drop 169) (y := KernelIdeal.main_v172) (a := KernelIdeal.main_v90) (b := KernelIdeal.main_v171) rfl rfl (by decide +kernel) (by decide +kernel) (by decide +kernel)
  have eR := final_binary (ReferenceIdeal.Hand.writes_tlOps0 (F := Ideal)) WR 163 (rest := (ReferenceIdeal.Hand.tlOps0 (F := Ideal)).drop 164) (wrest := ReferenceIdeal.Hand.wr_tlOps0.drop 164) (y := ReferenceIdeal.main_v146) (a := ReferenceIdeal.main_v64) (b := ReferenceIdeal.main_v145) rfl rfl (by decide +kernel) (by decide +kernel) (by decide +kernel)
  rw [eK, eR, h29 WK WR hP hLin hVal, h162 WK WR hP hLin hVal]
  try rfl
theorem h164 : StableHlo.after (KernelIdeal.Tail.ks0 (F := Ideal)) WK (Proc.devRef .tc KernelIdeal.main_v173) = StableHlo.after (ReferenceIdeal.Hand.tlOps0 (F := Ideal)) WR (Proc.devRef .tc ReferenceIdeal.main_v147) :=
  by
  have eK := final_binary (KernelIdeal.Tail.writes_ks0 (F := Ideal)) WK 169 (rest := (KernelIdeal.Tail.ks0 (F := Ideal)).drop 170) (wrest := KernelIdeal.Tail.wr_ks0.drop 170) (y := KernelIdeal.main_v173) (a := KernelIdeal.main_v86) (b := KernelIdeal.main_v172) rfl rfl (by decide +kernel) (by decide +kernel) (by decide +kernel)
  have eR := final_binary (ReferenceIdeal.Hand.writes_tlOps0 (F := Ideal)) WR 164 (rest := (ReferenceIdeal.Hand.tlOps0 (F := Ideal)).drop 165) (wrest := ReferenceIdeal.Hand.wr_tlOps0.drop 165) (y := ReferenceIdeal.main_v147) (a := ReferenceIdeal.main_v60) (b := ReferenceIdeal.main_v146) rfl rfl (by decide +kernel) (by decide +kernel) (by decide +kernel)
  rw [eK, eR, h22 WK WR hP hLin hVal, h163 WK WR hP hLin hVal]
  try rfl
theorem h165 : StableHlo.after (KernelIdeal.Tail.ks0 (F := Ideal)) WK (Proc.devRef .tc KernelIdeal.main_c_72) = StableHlo.after (ReferenceIdeal.Hand.tlOps0 (F := Ideal)) WR (Proc.devRef .tc ReferenceIdeal.main_c_52) :=
  by
  have eK := final_nullary (KernelIdeal.Tail.writes_ks0 (F := Ideal)) WK 170 (rest := (KernelIdeal.Tail.ks0 (F := Ideal)).drop 171) (wrest := KernelIdeal.Tail.wr_ks0.drop 171) (y := KernelIdeal.main_c_72) rfl rfl (by decide +kernel)
  have eR := final_nullary (ReferenceIdeal.Hand.writes_tlOps0 (F := Ideal)) WR 165 (rest := (ReferenceIdeal.Hand.tlOps0 (F := Ideal)).drop 166) (wrest := ReferenceIdeal.Hand.wr_tlOps0.drop 166) (y := ReferenceIdeal.main_c_52) rfl rfl (by decide +kernel)
  rw [eK, eR]
  try rfl
theorem h166 : StableHlo.after (KernelIdeal.Tail.ks0 (F := Ideal)) WK (Proc.devRef .tc KernelIdeal.main_call11_v0) = StableHlo.after (ReferenceIdeal.Hand.tlOps0 (F := Ideal)) WR (Proc.devRef .tc ReferenceIdeal.main_call12_v0) :=
  by
  have eK := final_unary (KernelIdeal.Tail.writes_ks0 (F := Ideal)) WK 171 (rest := (KernelIdeal.Tail.ks0 (F := Ideal)).drop 172) (wrest := KernelIdeal.Tail.wr_ks0.drop 172) (y := KernelIdeal.main_call11_v0) (x := KernelIdeal.main_c_72) rfl rfl (by decide +kernel) (by decide +kernel)
  have eR := final_unary (ReferenceIdeal.Hand.writes_tlOps0 (F := Ideal)) WR 166 (rest := (ReferenceIdeal.Hand.tlOps0 (F := Ideal)).drop 167) (wrest := ReferenceIdeal.Hand.wr_tlOps0.drop 167) (y := ReferenceIdeal.main_call12_v0) (x := ReferenceIdeal.main_c_52) rfl rfl (by decide +kernel) (by decide +kernel)
  rw [eK, eR, h165 WK WR hP hLin hVal]
  try rfl
theorem h167 : StableHlo.after (KernelIdeal.Tail.ks0 (F := Ideal)) WK (Proc.devRef .tc KernelIdeal.main_call11_v1) = StableHlo.after (ReferenceIdeal.Hand.tlOps0 (F := Ideal)) WR (Proc.devRef .tc ReferenceIdeal.main_call12_v1) :=
  by
  have eK := final_unary (KernelIdeal.Tail.writes_ks0 (F := Ideal)) WK 172 (rest := (KernelIdeal.Tail.ks0 (F := Ideal)).drop 173) (wrest := KernelIdeal.Tail.wr_ks0.drop 173) (y := KernelIdeal.main_call11_v1) (x := KernelIdeal.main_call11_v0) rfl rfl (by decide +kernel) (by decide +kernel)
  have eR := final_unary (ReferenceIdeal.Hand.writes_tlOps0 (F := Ideal)) WR 167 (rest := (ReferenceIdeal.Hand.tlOps0 (F := Ideal)).drop 168) (wrest := ReferenceIdeal.Hand.wr_tlOps0.drop 168) (y := ReferenceIdeal.main_call12_v1) (x := ReferenceIdeal.main_call12_v0) rfl rfl (by decide +kernel) (by decide +kernel)
  rw [eK, eR, h166 WK WR hP hLin hVal]
  try rfl
theorem h168 : StableHlo.after (KernelIdeal.Tail.ks0 (F := Ideal)) WK (Proc.devRef .tc KernelIdeal.main_v174) = StableHlo.after (ReferenceIdeal.Hand.tlOps0 (F := Ideal)) WR (Proc.devRef .tc ReferenceIdeal.main_v148) :=
  by
  have eK := final_ternary (KernelIdeal.Tail.writes_ks0 (F := Ideal)) WK 173 (rest := (KernelIdeal.Tail.ks0 (F := Ideal)).drop 174) (wrest := KernelIdeal.Tail.wr_ks0.drop 174) (y := KernelIdeal.main_v174) (c := KernelIdeal.main_v173) (a := KernelIdeal.main_v66) (b := KernelIdeal.main_call11_v1) rfl rfl (by decide +kernel) (by decide +kernel) (by decide +kernel) (by decide +kernel)
  have eR := final_ternary (ReferenceIdeal.Hand.writes_tlOps0 (F := Ideal)) WR 168 (rest := (ReferenceIdeal.Hand.tlOps0 (F := Ideal)).drop 169) (wrest := ReferenceIdeal.Hand.wr_tlOps0.drop 169) (y := ReferenceIdeal.main_v148) (c := ReferenceIdeal.main_v147) (a := ReferenceIdeal.main_v42) (b := ReferenceIdeal.main_call12_v1) rfl rfl (by decide +kernel) (by decide +kernel) (by decide +kernel) (by decide +kernel)
  rw [eK, eR, h164 WK WR hP hLin hVal, hLin, h167 WK WR hP hLin hVal]
  try rfl
theorem h169 : StableHlo.after (KernelIdeal.Tail.ks0 (F := Ideal)) WK (Proc.devRef .tc KernelIdeal.main_c_73) = StableHlo.after (ReferenceIdeal.Hand.tlOps0 (F := Ideal)) WR (Proc.devRef .tc ReferenceIdeal.main_c_53) :=
  by
  have eK := final_nullary (KernelIdeal.Tail.writes_ks0 (F := Ideal)) WK 174 (rest := (KernelIdeal.Tail.ks0 (F := Ideal)).drop 175) (wrest := KernelIdeal.Tail.wr_ks0.drop 175) (y := KernelIdeal.main_c_73) rfl rfl (by decide +kernel)
  have eR := final_nullary (ReferenceIdeal.Hand.writes_tlOps0 (F := Ideal)) WR 169 (rest := (ReferenceIdeal.Hand.tlOps0 (F := Ideal)).drop 170) (wrest := ReferenceIdeal.Hand.wr_tlOps0.drop 170) (y := ReferenceIdeal.main_c_53) rfl rfl (by decide +kernel)
  rw [eK, eR]
  try rfl
theorem h170 : StableHlo.after (KernelIdeal.Tail.ks0 (F := Ideal)) WK (Proc.devRef .tc KernelIdeal.main_v175) = StableHlo.after (ReferenceIdeal.Hand.tlOps0 (F := Ideal)) WR (Proc.devRef .tc ReferenceIdeal.main_v149) :=
  by
  have eK := final_unary (KernelIdeal.Tail.writes_ks0 (F := Ideal)) WK 175 (rest := (KernelIdeal.Tail.ks0 (F := Ideal)).drop 176) (wrest := KernelIdeal.Tail.wr_ks0.drop 176) (y := KernelIdeal.main_v175) (x := KernelIdeal.main_c_73) rfl rfl (by decide +kernel) (by decide +kernel)
  have eR := final_unary (ReferenceIdeal.Hand.writes_tlOps0 (F := Ideal)) WR 170 (rest := (ReferenceIdeal.Hand.tlOps0 (F := Ideal)).drop 171) (wrest := ReferenceIdeal.Hand.wr_tlOps0.drop 171) (y := ReferenceIdeal.main_v149) (x := ReferenceIdeal.main_c_53) rfl rfl (by decide +kernel) (by decide +kernel)
  rw [eK, eR, h169 WK WR hP hLin hVal]
  try rfl
theorem h171 : StableHlo.after (KernelIdeal.Tail.ks0 (F := Ideal)) WK (Proc.devRef .tc KernelIdeal.main_v176) = StableHlo.after (ReferenceIdeal.Hand.tlOps0 (F := Ideal)) WR (Proc.devRef .tc ReferenceIdeal.main_v150) :=
  by
  have eK := final_binary (KernelIdeal.Tail.writes_ks0 (F := Ideal)) WK 176 (rest := (KernelIdeal.Tail.ks0 (F := Ideal)).drop 177) (wrest := KernelIdeal.Tail.wr_ks0.drop 177) (y := KernelIdeal.main_v176) (a := KernelIdeal.main_v170) (b := KernelIdeal.main_v175) rfl rfl (by decide +kernel) (by decide +kernel) (by decide +kernel)
  have eR := final_binary (ReferenceIdeal.Hand.writes_tlOps0 (F := Ideal)) WR 171 (rest := (ReferenceIdeal.Hand.tlOps0 (F := Ideal)).drop 172) (wrest := ReferenceIdeal.Hand.wr_tlOps0.drop 172) (y := ReferenceIdeal.main_v150) (a := ReferenceIdeal.main_v144) (b := ReferenceIdeal.main_v149) rfl rfl (by decide +kernel) (by decide +kernel) (by decide +kernel)
  rw [eK, eR, h160 WK WR hP hLin hVal, h170 WK WR hP hLin hVal]
  try rfl
theorem h172 : StableHlo.after (KernelIdeal.Tail.ks0 (F := Ideal)) WK (Proc.devRef .tc KernelIdeal.main_c_74) = StableHlo.after (ReferenceIdeal.Hand.tlOps0 (F := Ideal)) WR (Proc.devRef .tc ReferenceIdeal.main_c_54) :=
  by
  have eK := final_nullary (KernelIdeal.Tail.writes_ks0 (F := Ideal)) WK 177 (rest := (KernelIdeal.Tail.ks0 (F := Ideal)).drop 178) (wrest := KernelIdeal.Tail.wr_ks0.drop 178) (y := KernelIdeal.main_c_74) rfl rfl (by decide +kernel)
  have eR := final_nullary (ReferenceIdeal.Hand.writes_tlOps0 (F := Ideal)) WR 172 (rest := (ReferenceIdeal.Hand.tlOps0 (F := Ideal)).drop 173) (wrest := ReferenceIdeal.Hand.wr_tlOps0.drop 173) (y := ReferenceIdeal.main_c_54) rfl rfl (by decide +kernel)
  rw [eK, eR]
  try rfl
theorem h173 : StableHlo.after (KernelIdeal.Tail.ks0 (F := Ideal)) WK (Proc.devRef .tc KernelIdeal.main_v177) = StableHlo.after (ReferenceIdeal.Hand.tlOps0 (F := Ideal)) WR (Proc.devRef .tc ReferenceIdeal.main_v151) :=
  by
  have eK := final_unary (KernelIdeal.Tail.writes_ks0 (F := Ideal)) WK 178 (rest := (KernelIdeal.Tail.ks0 (F := Ideal)).drop 179) (wrest := KernelIdeal.Tail.wr_ks0.drop 179) (y := KernelIdeal.main_v177) (x := KernelIdeal.main_c_74) rfl rfl (by decide +kernel) (by decide +kernel)
  have eR := final_unary (ReferenceIdeal.Hand.writes_tlOps0 (F := Ideal)) WR 173 (rest := (ReferenceIdeal.Hand.tlOps0 (F := Ideal)).drop 174) (wrest := ReferenceIdeal.Hand.wr_tlOps0.drop 174) (y := ReferenceIdeal.main_v151) (x := ReferenceIdeal.main_c_54) rfl rfl (by decide +kernel) (by decide +kernel)
  rw [eK, eR, h172 WK WR hP hLin hVal]
  try rfl
theorem h174 : StableHlo.after (KernelIdeal.Tail.ks0 (F := Ideal)) WK (Proc.devRef .tc KernelIdeal.main_v178) = StableHlo.after (ReferenceIdeal.Hand.tlOps0 (F := Ideal)) WR (Proc.devRef .tc ReferenceIdeal.main_v152) :=
  by
  have eK := final_binary (KernelIdeal.Tail.writes_ks0 (F := Ideal)) WK 179 (rest := (KernelIdeal.Tail.ks0 (F := Ideal)).drop 180) (wrest := KernelIdeal.Tail.wr_ks0.drop 180) (y := KernelIdeal.main_v178) (a := KernelIdeal.main_v170) (b := KernelIdeal.main_v177) rfl rfl (by decide +kernel) (by decide +kernel) (by decide +kernel)
  have eR := final_binary (ReferenceIdeal.Hand.writes_tlOps0 (F := Ideal)) WR 174 (rest := (ReferenceIdeal.Hand.tlOps0 (F := Ideal)).drop 175) (wrest := ReferenceIdeal.Hand.wr_tlOps0.drop 175) (y := ReferenceIdeal.main_v152) (a := ReferenceIdeal.main_v144) (b := ReferenceIdeal.main_v151) rfl rfl (by decide +kernel) (by decide +kernel) (by decide +kernel)
  rw [eK, eR, h160 WK WR hP hLin hVal, h173 WK WR hP hLin hVal]
  try rfl
theorem h175 : StableHlo.after (KernelIdeal.Tail.ks0 (F := Ideal)) WK (Proc.devRef .tc KernelIdeal.main_v179) = StableHlo.after (ReferenceIdeal.Hand.tlOps0 (F := Ideal)) WR (Proc.devRef .tc ReferenceIdeal.main_v153) :=
  by
  have eK := final_ternary (KernelIdeal.Tail.writes_ks0 (F := Ideal)) WK 180 (rest := (KernelIdeal.Tail.ks0 (F := Ideal)).drop 181) (wrest := KernelIdeal.Tail.wr_ks0.drop 181) (y := KernelIdeal.main_v179) (c := KernelIdeal.main_v176) (a := KernelIdeal.main_v178) (b := KernelIdeal.main_v170) rfl rfl (by decide +kernel) (by decide +kernel) (by decide +kernel) (by decide +kernel)
  have eR := final_ternary (ReferenceIdeal.Hand.writes_tlOps0 (F := Ideal)) WR 175 (rest := (ReferenceIdeal.Hand.tlOps0 (F := Ideal)).drop 176) (wrest := ReferenceIdeal.Hand.wr_tlOps0.drop 176) (y := ReferenceIdeal.main_v153) (c := ReferenceIdeal.main_v150) (a := ReferenceIdeal.main_v152) (b := ReferenceIdeal.main_v144) rfl rfl (by decide +kernel) (by decide +kernel) (by decide +kernel) (by decide +kernel)
  rw [eK, eR, h171 WK WR hP hLin hVal, h174 WK WR hP hLin hVal, h160 WK WR hP hLin hVal]
  try rfl
theorem h176 : StableHlo.after (KernelIdeal.Tail.ks0 (F := Ideal)) WK (Proc.devRef .tc KernelIdeal.main_v180) = StableHlo.after (ReferenceIdeal.Hand.tlOps0 (F := Ideal)) WR (Proc.devRef .tc ReferenceIdeal.main_v154) :=
  by
  have eK := final_unary (KernelIdeal.Tail.writes_ks0 (F := Ideal)) WK 181 (rest := (KernelIdeal.Tail.ks0 (F := Ideal)).drop 182) (wrest := KernelIdeal.Tail.wr_ks0.drop 182) (y := KernelIdeal.main_v180) (x := KernelIdeal.main_v179) rfl rfl (by decide +kernel) (by decide +kernel)
  have eR := final_unary (ReferenceIdeal.Hand.writes_tlOps0 (F := Ideal)) WR 176 (rest := (ReferenceIdeal.Hand.tlOps0 (F := Ideal)).drop 177) (wrest := ReferenceIdeal.Hand.wr_tlOps0.drop 177) (y := ReferenceIdeal.main_v154) (x := ReferenceIdeal.main_v153) rfl rfl (by decide +kernel) (by decide +kernel)
  rw [eK, eR, h175 WK WR hP hLin hVal]
  try rfl
theorem h177 : StableHlo.after (KernelIdeal.Tail.ks0 (F := Ideal)) WK (Proc.devRef .tc KernelIdeal.main_v181) = StableHlo.after (ReferenceIdeal.Hand.tlOps0 (F := Ideal)) WR (Proc.devRef .tc ReferenceIdeal.main_v155) :=
  by
  have eK := final_ternary (KernelIdeal.Tail.writes_ks0 (F := Ideal)) WK 182 (rest := (KernelIdeal.Tail.ks0 (F := Ideal)).drop 183) (wrest := KernelIdeal.Tail.wr_ks0.drop 183) (y := KernelIdeal.main_v181) (c := KernelIdeal.main_v166) (a := KernelIdeal.main_v180) (b := KernelIdeal.main_v174) rfl rfl (by decide +kernel) (by decide +kernel) (by decide +kernel) (by decide +kernel)
  have eR := final_ternary (ReferenceIdeal.Hand.writes_tlOps0 (F := Ideal)) WR 177 (rest := (ReferenceIdeal.Hand.tlOps0 (F := Ideal)).drop 178) (wrest := ReferenceIdeal.Hand.wr_tlOps0.drop 178) (y := ReferenceIdeal.main_v155) (c := ReferenceIdeal.main_v140) (a := ReferenceIdeal.main_v154) (b := ReferenceIdeal.main_v148) rfl rfl (by decide +kernel) (by decide +kernel) (by decide +kernel) (by decide +kernel)
  rw [eK, eR, h152 WK WR hP hLin hVal, h176 WK WR hP hLin hVal, h168 WK WR hP hLin hVal]
  try rfl
theorem h178 : StableHlo.after (KernelIdeal.Tail.ks0 (F := Ideal)) WK (Proc.devRef .tc KernelIdeal.main_v182) = StableHlo.after (ReferenceIdeal.Hand.tlOps0 (F := Ideal)) WR (Proc.devRef .tc ReferenceIdeal.main_v156) :=
  by
  have eK := final_unary (KernelIdeal.Tail.writes_ks0 (F := Ideal)) WK 183 (rest := (KernelIdeal.Tail.ks0 (F := Ideal)).drop 184) (wrest := KernelIdeal.Tail.wr_ks0.drop 184) (y := KernelIdeal.main_v182) (x := KernelIdeal.main_v181) rfl rfl (by decide +kernel) (by decide +kernel)
  have eR := final_unary (ReferenceIdeal.Hand.writes_tlOps0 (F := Ideal)) WR 178 (rest := (ReferenceIdeal.Hand.tlOps0 (F := Ideal)).drop 179) (wrest := ReferenceIdeal.Hand.wr_tlOps0.drop 179) (y := ReferenceIdeal.main_v156) (x := ReferenceIdeal.main_v155) rfl rfl (by decide +kernel) (by decide +kernel)
  rw [eK, eR, h177 WK WR hP hLin hVal]
  try rfl
theorem h179 : StableHlo.after (KernelIdeal.Tail.ks0 (F := Ideal)) WK (Proc.devRef .tc KernelIdeal.main_c_75) = StableHlo.after (ReferenceIdeal.Hand.tlOps0 (F := Ideal)) WR (Proc.devRef .tc ReferenceIdeal.main_c_55) :=
  by
  have eK := final_nullary (KernelIdeal.Tail.writes_ks0 (F := Ideal)) WK 184 (rest := (KernelIdeal.Tail.ks0 (F := Ideal)).drop 185) (wrest := KernelIdeal.Tail.wr_ks0.drop 185) (y := KernelIdeal.main_c_75) rfl rfl (by decide +kernel)
  have eR := final_nullary (ReferenceIdeal.Hand.writes_tlOps0 (F := Ideal)) WR 179 (rest := (ReferenceIdeal.Hand.tlOps0 (F := Ideal)).drop 180) (wrest := ReferenceIdeal.Hand.wr_tlOps0.drop 180) (y := ReferenceIdeal.main_c_55) rfl rfl (by decide +kernel)
  rw [eK, eR]
  try rfl
theorem h180 : StableHlo.after (KernelIdeal.Tail.ks0 (F := Ideal)) WK (Proc.devRef .tc KernelIdeal.main_v183) = StableHlo.after (ReferenceIdeal.Hand.tlOps0 (F := Ideal)) WR (Proc.devRef .tc ReferenceIdeal.main_v157) :=
  by
  have eK := final_unary (KernelIdeal.Tail.writes_ks0 (F := Ideal)) WK 185 (rest := (KernelIdeal.Tail.ks0 (F := Ideal)).drop 186) (wrest := KernelIdeal.Tail.wr_ks0.drop 186) (y := KernelIdeal.main_v183) (x := KernelIdeal.main_c_75) rfl rfl (by decide +kernel) (by decide +kernel)
  have eR := final_unary (ReferenceIdeal.Hand.writes_tlOps0 (F := Ideal)) WR 180 (rest := (ReferenceIdeal.Hand.tlOps0 (F := Ideal)).drop 181) (wrest := ReferenceIdeal.Hand.wr_tlOps0.drop 181) (y := ReferenceIdeal.main_v157) (x := ReferenceIdeal.main_c_55) rfl rfl (by decide +kernel) (by decide +kernel)
  rw [eK, eR, h179 WK WR hP hLin hVal]
  try rfl
theorem h181 : StableHlo.after (KernelIdeal.Tail.ks0 (F := Ideal)) WK (Proc.devRef .tc KernelIdeal.main_v184) = StableHlo.after (ReferenceIdeal.Hand.tlOps0 (F := Ideal)) WR (Proc.devRef .tc ReferenceIdeal.main_v158) :=
  by
  have eK := final_binary (KernelIdeal.Tail.writes_ks0 (F := Ideal)) WK 186 (rest := (KernelIdeal.Tail.ks0 (F := Ideal)).drop 187) (wrest := KernelIdeal.Tail.wr_ks0.drop 187) (y := KernelIdeal.main_v184) (a := KernelIdeal.main_v182) (b := KernelIdeal.main_v183) rfl rfl (by decide +kernel) (by decide +kernel) (by decide +kernel)
  have eR := final_binary (ReferenceIdeal.Hand.writes_tlOps0 (F := Ideal)) WR 181 (rest := (ReferenceIdeal.Hand.tlOps0 (F := Ideal)).drop 182) (wrest := ReferenceIdeal.Hand.wr_tlOps0.drop 182) (y := ReferenceIdeal.main_v158) (a := ReferenceIdeal.main_v156) (b := ReferenceIdeal.main_v157) rfl rfl (by decide +kernel) (by decide +kernel) (by decide +kernel)
  rw [eK, eR, h178 WK WR hP hLin hVal, h180 WK WR hP hLin hVal]
  try rfl
theorem h182 : StableHlo.after (KernelIdeal.Tail.ks0 (F := Ideal)) WK (Proc.devRef .tc KernelIdeal.main_c_76) = StableHlo.after (ReferenceIdeal.Hand.tlOps0 (F := Ideal)) WR (Proc.devRef .tc ReferenceIdeal.main_c_56) :=
  by
  have eK := final_nullary (KernelIdeal.Tail.writes_ks0 (F := Ideal)) WK 187 (rest := (KernelIdeal.Tail.ks0 (F := Ideal)).drop 188) (wrest := KernelIdeal.Tail.wr_ks0.drop 188) (y := KernelIdeal.main_c_76) rfl rfl (by decide +kernel)
  have eR := final_nullary (ReferenceIdeal.Hand.writes_tlOps0 (F := Ideal)) WR 182 (rest := (ReferenceIdeal.Hand.tlOps0 (F := Ideal)).drop 183) (wrest := ReferenceIdeal.Hand.wr_tlOps0.drop 183) (y := ReferenceIdeal.main_c_56) rfl rfl (by decide +kernel)
  rw [eK, eR]
  try rfl
theorem h183 : StableHlo.after (KernelIdeal.Tail.ks0 (F := Ideal)) WK (Proc.devRef .tc KernelIdeal.main_call12_v0) = StableHlo.after (ReferenceIdeal.Hand.tlOps0 (F := Ideal)) WR (Proc.devRef .tc ReferenceIdeal.main_call13_v0) :=
  by
  have eK := final_unary (KernelIdeal.Tail.writes_ks0 (F := Ideal)) WK 188 (rest := (KernelIdeal.Tail.ks0 (F := Ideal)).drop 189) (wrest := KernelIdeal.Tail.wr_ks0.drop 189) (y := KernelIdeal.main_call12_v0) (x := KernelIdeal.main_c_76) rfl rfl (by decide +kernel) (by decide +kernel)
  have eR := final_unary (ReferenceIdeal.Hand.writes_tlOps0 (F := Ideal)) WR 183 (rest := (ReferenceIdeal.Hand.tlOps0 (F := Ideal)).drop 184) (wrest := ReferenceIdeal.Hand.wr_tlOps0.drop 184) (y := ReferenceIdeal.main_call13_v0) (x := ReferenceIdeal.main_c_56) rfl rfl (by decide +kernel) (by decide +kernel)
  rw [eK, eR, h182 WK WR hP hLin hVal]
  try rfl
theorem h184 : StableHlo.after (KernelIdeal.Tail.ks0 (F := Ideal)) WK (Proc.devRef .tc KernelIdeal.main_call12_v1) = StableHlo.after (ReferenceIdeal.Hand.tlOps0 (F := Ideal)) WR (Proc.devRef .tc ReferenceIdeal.main_call13_v1) :=
  by
  have eK := final_unary (KernelIdeal.Tail.writes_ks0 (F := Ideal)) WK 189 (rest := (KernelIdeal.Tail.ks0 (F := Ideal)).drop 190) (wrest := KernelIdeal.Tail.wr_ks0.drop 190) (y := KernelIdeal.main_call12_v1) (x := KernelIdeal.main_call12_v0) rfl rfl (by decide +kernel) (by decide +kernel)
  have eR := final_unary (ReferenceIdeal.Hand.writes_tlOps0 (F := Ideal)) WR 184 (rest := (ReferenceIdeal.Hand.tlOps0 (F := Ideal)).drop 185) (wrest := ReferenceIdeal.Hand.wr_tlOps0.drop 185) (y := ReferenceIdeal.main_call13_v1) (x := ReferenceIdeal.main_call13_v0) rfl rfl (by decide +kernel) (by decide +kernel)
  rw [eK, eR, h183 WK WR hP hLin hVal]
  try rfl
theorem h185 : StableHlo.after (KernelIdeal.Tail.ks0 (F := Ideal)) WK (Proc.devRef .tc KernelIdeal.main_call12_v2) = StableHlo.after (ReferenceIdeal.Hand.tlOps0 (F := Ideal)) WR (Proc.devRef .tc ReferenceIdeal.main_call13_v2) :=
  by
  have eK := final_binary (KernelIdeal.Tail.writes_ks0 (F := Ideal)) WK 190 (rest := (KernelIdeal.Tail.ks0 (F := Ideal)).drop 191) (wrest := KernelIdeal.Tail.wr_ks0.drop 191) (y := KernelIdeal.main_call12_v2) (a := KernelIdeal.main_v182) (b := KernelIdeal.main_call12_v1) rfl rfl (by decide +kernel) (by decide +kernel) (by decide +kernel)
  have eR := final_binary (ReferenceIdeal.Hand.writes_tlOps0 (F := Ideal)) WR 185 (rest := (ReferenceIdeal.Hand.tlOps0 (F := Ideal)).drop 186) (wrest := ReferenceIdeal.Hand.wr_tlOps0.drop 186) (y := ReferenceIdeal.main_call13_v2) (a := ReferenceIdeal.main_v156) (b := ReferenceIdeal.main_call13_v1) rfl rfl (by decide +kernel) (by decide +kernel) (by decide +kernel)
  rw [eK, eR, h178 WK WR hP hLin hVal, h184 WK WR hP hLin hVal]
  try rfl
theorem h186 : StableHlo.after (KernelIdeal.Tail.ks0 (F := Ideal)) WK (Proc.devRef .tc KernelIdeal.main_call12_v3) = StableHlo.after (ReferenceIdeal.Hand.tlOps0 (F := Ideal)) WR (Proc.devRef .tc ReferenceIdeal.main_call13_v3) :=
  by
  have eK := final_unary (KernelIdeal.Tail.writes_ks0 (F := Ideal)) WK 191 (rest := (KernelIdeal.Tail.ks0 (F := Ideal)).drop 192) (wrest := KernelIdeal.Tail.wr_ks0.drop 192) (y := KernelIdeal.main_call12_v3) (x := KernelIdeal.main_v182) rfl rfl (by decide +kernel) (by decide +kernel)
  have eR := final_unary (ReferenceIdeal.Hand.writes_tlOps0 (F := Ideal)) WR 186 (rest := (ReferenceIdeal.Hand.tlOps0 (F := Ideal)).drop 187) (wrest := ReferenceIdeal.Hand.wr_tlOps0.drop 187) (y := ReferenceIdeal.main_call13_v3) (x := ReferenceIdeal.main_v156) rfl rfl (by decide +kernel) (by decide +kernel)
  rw [eK, eR, h178 WK WR hP hLin hVal]
  try rfl
theorem h187 : StableHlo.after (KernelIdeal.Tail.ks0 (F := Ideal)) WK (Proc.devRef .tc KernelIdeal.main_call12_v4) = StableHlo.after (ReferenceIdeal.Hand.tlOps0 (F := Ideal)) WR (Proc.devRef .tc ReferenceIdeal.main_call13_v4) :=
  by
  have eK := final_unary (KernelIdeal.Tail.writes_ks0 (F := Ideal)) WK 192 (rest := (KernelIdeal.Tail.ks0 (F := Ideal)).drop 193) (wrest := KernelIdeal.Tail.wr_ks0.drop 193) (y := KernelIdeal.main_call12_v4) (x := KernelIdeal.main_call12_v0) rfl rfl (by decide +kernel) (by decide +kernel)
  have eR := final_unary (ReferenceIdeal.Hand.writes_tlOps0 (F := Ideal)) WR 187 (rest := (ReferenceIdeal.Hand.tlOps0 (F := Ideal)).drop 188) (wrest := ReferenceIdeal.Hand.wr_tlOps0.drop 188) (y := ReferenceIdeal.main_call13_v4) (x := ReferenceIdeal.main_call13_v0) rfl rfl (by decide +kernel) (by decide +kernel)
  rw [eK, eR, h183 WK WR hP hLin hVal]
  try rfl
theorem h188 : StableHlo.after (KernelIdeal.Tail.ks0 (F := Ideal)) WK (Proc.devRef .tc KernelIdeal.main_call12_v5) = StableHlo.after (ReferenceIdeal.Hand.tlOps0 (F := Ideal)) WR (Proc.devRef .tc ReferenceIdeal.main_call13_v5) :=
  by
  have eK := final_unary (KernelIdeal.Tail.writes_ks0 (F := Ideal)) WK 193 (rest := (KernelIdeal.Tail.ks0 (F := Ideal)).drop 194) (wrest := KernelIdeal.Tail.wr_ks0.drop 194) (y := KernelIdeal.main_call12_v5) (x := KernelIdeal.main_call12_v4) rfl rfl (by decide +kernel) (by decide +kernel)
  have eR := final_unary (ReferenceIdeal.Hand.writes_tlOps0 (F := Ideal)) WR 188 (rest := (ReferenceIdeal.Hand.tlOps0 (F := Ideal)).drop 189) (wrest := ReferenceIdeal.Hand.wr_tlOps0.drop 189) (y := ReferenceIdeal.main_call13_v5) (x := ReferenceIdeal.main_call13_v4) rfl rfl (by decide +kernel) (by decide +kernel)
  rw [eK, eR, h187 WK WR hP hLin hVal]
  try rfl
theorem h189 : StableHlo.after (KernelIdeal.Tail.ks0 (F := Ideal)) WK (Proc.devRef .tc KernelIdeal.main_call12_v6) = StableHlo.after (ReferenceIdeal.Hand.tlOps0 (F := Ideal)) WR (Proc.devRef .tc ReferenceIdeal.main_call13_v6) :=
  by
  have eK := final_binary (KernelIdeal.Tail.writes_ks0 (F := Ideal)) WK 194 (rest := (KernelIdeal.Tail.ks0 (F := Ideal)).drop 195) (wrest := KernelIdeal.Tail.wr_ks0.drop 195) (y := KernelIdeal.main_call12_v6) (a := KernelIdeal.main_call12_v3) (b := KernelIdeal.main_call12_v5) rfl rfl (by decide +kernel) (by decide +kernel) (by decide +kernel)
  have eR := final_binary (ReferenceIdeal.Hand.writes_tlOps0 (F := Ideal)) WR 189 (rest := (ReferenceIdeal.Hand.tlOps0 (F := Ideal)).drop 190) (wrest := ReferenceIdeal.Hand.wr_tlOps0.drop 190) (y := ReferenceIdeal.main_call13_v6) (a := ReferenceIdeal.main_call13_v3) (b := ReferenceIdeal.main_call13_v5) rfl rfl (by decide +kernel) (by decide +kernel) (by decide +kernel)
  rw [eK, eR, h186 WK WR hP hLin hVal, h188 WK WR hP hLin hVal]
  try rfl
theorem h190 : StableHlo.after (KernelIdeal.Tail.ks0 (F := Ideal)) WK (Proc.devRef .tc KernelIdeal.main_call12_v7) = StableHlo.after (ReferenceIdeal.Hand.tlOps0 (F := Ideal)) WR (Proc.devRef .tc ReferenceIdeal.main_call13_v7) :=
  by
  have eK := final_unary (KernelIdeal.Tail.writes_ks0 (F := Ideal)) WK 195 (rest := (KernelIdeal.Tail.ks0 (F := Ideal)).drop 196) (wrest := KernelIdeal.Tail.wr_ks0.drop 196) (y := KernelIdeal.main_call12_v7) (x := KernelIdeal.main_call12_v0) rfl rfl (by decide +kernel) (by decide +kernel)
  have eR := final_unary (ReferenceIdeal.Hand.writes_tlOps0 (F := Ideal)) WR 190 (rest := (ReferenceIdeal.Hand.tlOps0 (F := Ideal)).drop 191) (wrest := ReferenceIdeal.Hand.wr_tlOps0.drop 191) (y := ReferenceIdeal.main_call13_v7) (x := ReferenceIdeal.main_call13_v0) rfl rfl (by decide +kernel) (by decide +kernel)
  rw [eK, eR, h183 WK WR hP hLin hVal]
  try rfl
theorem h191 : StableHlo.after (KernelIdeal.Tail.ks0 (F := Ideal)) WK (Proc.devRef .tc KernelIdeal.main_call12_v8) = StableHlo.after (ReferenceIdeal.Hand.tlOps0 (F := Ideal)) WR (Proc.devRef .tc ReferenceIdeal.main_call13_v8) :=
  by
  have eK := final_binary (KernelIdeal.Tail.writes_ks0 (F := Ideal)) WK 196 (rest := (KernelIdeal.Tail.ks0 (F := Ideal)).drop 197) (wrest := KernelIdeal.Tail.wr_ks0.drop 197) (y := KernelIdeal.main_call12_v8) (a := KernelIdeal.main_v182) (b := KernelIdeal.main_call12_v7) rfl rfl (by decide +kernel) (by decide +kernel) (by decide +kernel)
  have eR := final_binary (ReferenceIdeal.Hand.writes_tlOps0 (F := Ideal)) WR 191 (rest := (ReferenceIdeal.Hand.tlOps0 (F := Ideal)).drop 192) (wrest := ReferenceIdeal.Hand.wr_tlOps0.drop 192) (y := ReferenceIdeal.main_call13_v8) (a := ReferenceIdeal.main_v156) (b := ReferenceIdeal.main_call13_v7) rfl rfl (by decide +kernel) (by decide +kernel) (by decide +kernel)
  rw [eK, eR, h178 WK WR hP hLin hVal, h190 WK WR hP hLin hVal]
  try rfl
theorem h192 : StableHlo.after (KernelIdeal.Tail.ks0 (F := Ideal)) WK (Proc.devRef .tc KernelIdeal.main_call12_c) = StableHlo.after (ReferenceIdeal.Hand.tlOps0 (F := Ideal)) WR (Proc.devRef .tc ReferenceIdeal.main_call13_c) :=
  by
  have eK := final_nullary (KernelIdeal.Tail.writes_ks0 (F := Ideal)) WK 197 (rest := (KernelIdeal.Tail.ks0 (F := Ideal)).drop 198) (wrest := KernelIdeal.Tail.wr_ks0.drop 198) (y := KernelIdeal.main_call12_c) rfl rfl (by decide +kernel)
  have eR := final_nullary (ReferenceIdeal.Hand.writes_tlOps0 (F := Ideal)) WR 192 (rest := (ReferenceIdeal.Hand.tlOps0 (F := Ideal)).drop 193) (wrest := ReferenceIdeal.Hand.wr_tlOps0.drop 193) (y := ReferenceIdeal.main_call13_c) rfl rfl (by decide +kernel)
  rw [eK, eR]
  try rfl
theorem h193 : StableHlo.after (KernelIdeal.Tail.ks0 (F := Ideal)) WK (Proc.devRef .tc KernelIdeal.main_call12_v9) = StableHlo.after (ReferenceIdeal.Hand.tlOps0 (F := Ideal)) WR (Proc.devRef .tc ReferenceIdeal.main_call13_v9) :=
  by
  have eK := final_unary (KernelIdeal.Tail.writes_ks0 (F := Ideal)) WK 198 (rest := (KernelIdeal.Tail.ks0 (F := Ideal)).drop 199) (wrest := KernelIdeal.Tail.wr_ks0.drop 199) (y := KernelIdeal.main_call12_v9) (x := KernelIdeal.main_call12_c) rfl rfl (by decide +kernel) (by decide +kernel)
  have eR := final_unary (ReferenceIdeal.Hand.writes_tlOps0 (F := Ideal)) WR 193 (rest := (ReferenceIdeal.Hand.tlOps0 (F := Ideal)).drop 194) (wrest := ReferenceIdeal.Hand.wr_tlOps0.drop 194) (y := ReferenceIdeal.main_call13_v9) (x := ReferenceIdeal.main_call13_c) rfl rfl (by decide +kernel) (by decide +kernel)
  rw [eK, eR, h192 WK WR hP hLin hVal]
  try rfl
theorem h194 : StableHlo.after (KernelIdeal.Tail.ks0 (F := Ideal)) WK (Proc.devRef .tc KernelIdeal.main_call12_v10) = StableHlo.after (ReferenceIdeal.Hand.tlOps0 (F := Ideal)) WR (Proc.devRef .tc ReferenceIdeal.main_call13_v10) :=
  by
  have eK := final_binary (KernelIdeal.Tail.writes_ks0 (F := Ideal)) WK 199 (rest := (KernelIdeal.Tail.ks0 (F := Ideal)).drop 200) (wrest := KernelIdeal.Tail.wr_ks0.drop 200) (y := KernelIdeal.main_call12_v10) (a := KernelIdeal.main_call12_v8) (b := KernelIdeal.main_call12_v9) rfl rfl (by decide +kernel) (by decide +kernel) (by decide +kernel)
  have eR := final_binary (ReferenceIdeal.Hand.writes_tlOps0 (F := Ideal)) WR 194 (rest := (ReferenceIdeal.Hand.tlOps0 (F := Ideal)).drop 195) (wrest := ReferenceIdeal.Hand.wr_tlOps0.drop 195) (y := ReferenceIdeal.main_call13_v10) (a := ReferenceIdeal.main_call13_v8) (b := ReferenceIdeal.main_call13_v9) rfl rfl (by decide +kernel) (by decide +kernel) (by decide +kernel)
  rw [eK, eR, h191 WK WR hP hLin hVal, h193 WK WR hP hLin hVal]
  try rfl
theorem h195 : StableHlo.after (KernelIdeal.Tail.ks0 (F := Ideal)) WK (Proc.devRef .tc KernelIdeal.main_call12_v11) = StableHlo.after (ReferenceIdeal.Hand.tlOps0 (F := Ideal)) WR (Proc.devRef .tc ReferenceIdeal.main_call13_v11) :=
  by
  have eK := final_binary (KernelIdeal.Tail.writes_ks0 (F := Ideal)) WK 200 (rest := (KernelIdeal.Tail.ks0 (F := Ideal)).drop 201) (wrest := KernelIdeal.Tail.wr_ks0.drop 201) (y := KernelIdeal.main_call12_v11) (a := KernelIdeal.main_call12_v6) (b := KernelIdeal.main_call12_v10) rfl rfl (by decide +kernel) (by decide +kernel) (by decide +kernel)
  have eR := final_binary (ReferenceIdeal.Hand.writes_tlOps0 (F := Ideal)) WR 195 (rest := (ReferenceIdeal.Hand.tlOps0 (F := Ideal)).drop 196) (wrest := ReferenceIdeal.Hand.wr_tlOps0.drop 196) (y := ReferenceIdeal.main_call13_v11) (a := ReferenceIdeal.main_call13_v6) (b := ReferenceIdeal.main_call13_v10) rfl rfl (by decide +kernel) (by decide +kernel) (by decide +kernel)
  rw [eK, eR, h189 WK WR hP hLin hVal, h194 WK WR hP hLin hVal]
  try rfl
theorem h196 : StableHlo.after (KernelIdeal.Tail.ks0 (F := Ideal)) WK (Proc.devRef .tc KernelIdeal.main_call12_c_0) = StableHlo.after (ReferenceIdeal.Hand.tlOps0 (F := Ideal)) WR (Proc.devRef .tc ReferenceIdeal.main_call13_c_0) :=
  by
  have eK := final_nullary (KernelIdeal.Tail.writes_ks0 (F := Ideal)) WK 201 (rest := (KernelIdeal.Tail.ks0 (F := Ideal)).drop 202) (wrest := KernelIdeal.Tail.wr_ks0.drop 202) (y := KernelIdeal.main_call12_c_0) rfl rfl (by decide +kernel)
  have eR := final_nullary (ReferenceIdeal.Hand.writes_tlOps0 (F := Ideal)) WR 196 (rest := (ReferenceIdeal.Hand.tlOps0 (F := Ideal)).drop 197) (wrest := ReferenceIdeal.Hand.wr_tlOps0.drop 197) (y := ReferenceIdeal.main_call13_c_0) rfl rfl (by decide +kernel)
  rw [eK, eR]
  try rfl
theorem h197 : StableHlo.after (KernelIdeal.Tail.ks0 (F := Ideal)) WK (Proc.devRef .tc KernelIdeal.main_call12_v12) = StableHlo.after (ReferenceIdeal.Hand.tlOps0 (F := Ideal)) WR (Proc.devRef .tc ReferenceIdeal.main_call13_v12) :=
  by
  have eK := final_unary (KernelIdeal.Tail.writes_ks0 (F := Ideal)) WK 202 (rest := (KernelIdeal.Tail.ks0 (F := Ideal)).drop 203) (wrest := KernelIdeal.Tail.wr_ks0.drop 203) (y := KernelIdeal.main_call12_v12) (x := KernelIdeal.main_call12_c_0) rfl rfl (by decide +kernel) (by decide +kernel)
  have eR := final_unary (ReferenceIdeal.Hand.writes_tlOps0 (F := Ideal)) WR 197 (rest := (ReferenceIdeal.Hand.tlOps0 (F := Ideal)).drop 198) (wrest := ReferenceIdeal.Hand.wr_tlOps0.drop 198) (y := ReferenceIdeal.main_call13_v12) (x := ReferenceIdeal.main_call13_c_0) rfl rfl (by decide +kernel) (by decide +kernel)
  rw [eK, eR, h196 WK WR hP hLin hVal]
  try rfl
theorem h198 : StableHlo.after (KernelIdeal.Tail.ks0 (F := Ideal)) WK (Proc.devRef .tc KernelIdeal.main_call12_v13) = StableHlo.after (ReferenceIdeal.Hand.tlOps0 (F := Ideal)) WR (Proc.devRef .tc ReferenceIdeal.main_call13_v13) :=
  by
  have eK := final_binary (KernelIdeal.Tail.writes_ks0 (F := Ideal)) WK 203 (rest := (KernelIdeal.Tail.ks0 (F := Ideal)).drop 204) (wrest := KernelIdeal.Tail.wr_ks0.drop 204) (y := KernelIdeal.main_call12_v13) (a := KernelIdeal.main_call12_v2) (b := KernelIdeal.main_call12_v12) rfl rfl (by decide +kernel) (by decide +kernel) (by decide +kernel)
  have eR := final_binary (ReferenceIdeal.Hand.writes_tlOps0 (F := Ideal)) WR 198 (rest := (ReferenceIdeal.Hand.tlOps0 (F := Ideal)).drop 199) (wrest := ReferenceIdeal.Hand.wr_tlOps0.drop 199) (y := ReferenceIdeal.main_call13_v13) (a := ReferenceIdeal.main_call13_v2) (b := ReferenceIdeal.main_call13_v12) rfl rfl (by decide +kernel) (by decide +kernel) (by decide +kernel)
  rw [eK, eR, h185 WK WR hP hLin hVal, h197 WK WR hP hLin hVal]
  try rfl
theorem h199 : StableHlo.after (KernelIdeal.Tail.ks0 (F := Ideal)) WK (Proc.devRef .tc KernelIdeal.main_v185) = StableHlo.after (ReferenceIdeal.Hand.tlOps0 (F := Ideal)) WR (Proc.devRef .tc ReferenceIdeal.main_v159) :=
  by
  have eK := final_ternary (KernelIdeal.Tail.writes_ks0 (F := Ideal)) WK 204 (rest := (KernelIdeal.Tail.ks0 (F := Ideal)).drop 205) (wrest := KernelIdeal.Tail.wr_ks0.drop 205) (y := KernelIdeal.main_v185) (c := KernelIdeal.main_call12_v11) (a := KernelIdeal.main_call12_v13) (b := KernelIdeal.main_call12_v2) rfl rfl (by decide +kernel) (by decide +kernel) (by decide +kernel) (by decide +kernel)
  have eR := final_ternary (ReferenceIdeal.Hand.writes_tlOps0 (F := Ideal)) WR 199 (rest := (ReferenceIdeal.Hand.tlOps0 (F := Ideal)).drop 200) (wrest := ReferenceIdeal.Hand.wr_tlOps0.drop 200) (y := ReferenceIdeal.main_v159) (c := ReferenceIdeal.main_call13_v11) (a := ReferenceIdeal.main_call13_v13) (b := ReferenceIdeal.main_call13_v2) rfl rfl (by decide +kernel) (by decide +kernel) (by decide +kernel) (by decide +kernel)
  rw [eK, eR, h195 WK WR hP hLin hVal, h198 WK WR hP hLin hVal, h185 WK WR hP hLin hVal]
  try rfl
theorem h200 : StableHlo.after (KernelIdeal.Tail.ks0 (F := Ideal)) WK (Proc.devRef .tc KernelIdeal.main_c_77) = StableHlo.after (ReferenceIdeal.Hand.tlOps0 (F := Ideal)) WR (Proc.devRef .tc ReferenceIdeal.main_c_57) :=
  by
  have eK := final_nullary (KernelIdeal.Tail.writes_ks0 (F := Ideal)) WK 205 (rest := (KernelIdeal.Tail.ks0 (F := Ideal)).drop 206) (wrest := KernelIdeal.Tail.wr_ks0.drop 206) (y := KernelIdeal.main_c_77) rfl rfl (by decide +kernel)
  have eR := final_nullary (ReferenceIdeal.Hand.writes_tlOps0 (F := Ideal)) WR 200 (rest := (ReferenceIdeal.Hand.tlOps0 (F := Ideal)).drop 201) (wrest := ReferenceIdeal.Hand.wr_tlOps0.drop 201) (y := ReferenceIdeal.main_c_57) rfl rfl (by decide +kernel)
  rw [eK, eR]
  try rfl
theorem h201 : StableHlo.after (KernelIdeal.Tail.ks0 (F := Ideal)) WK (Proc.devRef .tc KernelIdeal.main_call13_v0) = StableHlo.after (ReferenceIdeal.Hand.tlOps0 (F := Ideal)) WR (Proc.devRef .tc ReferenceIdeal.main_call14_v0) :=
  by
  have eK := final_unary (KernelIdeal.Tail.writes_ks0 (F := Ideal)) WK 206 (rest := (KernelIdeal.Tail.ks0 (F := Ideal)).drop 207) (wrest := KernelIdeal.Tail.wr_ks0.drop 207) (y := KernelIdeal.main_call13_v0) (x := KernelIdeal.main_c_77) rfl rfl (by decide +kernel) (by decide +kernel)
  have eR := final_unary (ReferenceIdeal.Hand.writes_tlOps0 (F := Ideal)) WR 201 (rest := (ReferenceIdeal.Hand.tlOps0 (F := Ideal)).drop 202) (wrest := ReferenceIdeal.Hand.wr_tlOps0.drop 202) (y := ReferenceIdeal.main_call14_v0) (x := ReferenceIdeal.main_c_57) rfl rfl (by decide +kernel) (by decide +kernel)
  rw [eK, eR, h200 WK WR hP hLin hVal]
  try rfl
theorem h202 : StableHlo.after (KernelIdeal.Tail.ks0 (F := Ideal)) WK (Proc.devRef .tc KernelIdeal.main_call13_v1) = StableHlo.after (ReferenceIdeal.Hand.tlOps0 (F := Ideal)) WR (Proc.devRef .tc ReferenceIdeal.main_call14_v1) :=
  by
  have eK := final_unary (KernelIdeal.Tail.writes_ks0 (F := Ideal)) WK 207 (rest := (KernelIdeal.Tail.ks0 (F := Ideal)).drop 208) (wrest := KernelIdeal.Tail.wr_ks0.drop 208) (y := KernelIdeal.main_call13_v1) (x := KernelIdeal.main_call13_v0) rfl rfl (by decide +kernel) (by decide +kernel)
  have eR := final_unary (ReferenceIdeal.Hand.writes_tlOps0 (F := Ideal)) WR 202 (rest := (ReferenceIdeal.Hand.tlOps0 (F := Ideal)).drop 203) (wrest := ReferenceIdeal.Hand.wr_tlOps0.drop 203) (y := ReferenceIdeal.main_call14_v1) (x := ReferenceIdeal.main_call14_v0) rfl rfl (by decide +kernel) (by decide +kernel)
  rw [eK, eR, h201 WK WR hP hLin hVal]
  try rfl
theorem h203 : StableHlo.after (KernelIdeal.Tail.ks0 (F := Ideal)) WK (Proc.devRef .tc KernelIdeal.main_v186) = StableHlo.after (ReferenceIdeal.Hand.tlOps0 (F := Ideal)) WR (Proc.devRef .tc ReferenceIdeal.main_v160) :=
  by
  have eK := final_ternary (KernelIdeal.Tail.writes_ks0 (F := Ideal)) WK 208 (rest := (KernelIdeal.Tail.ks0 (F := Ideal)).drop 209) (wrest := KernelIdeal.Tail.wr_ks0.drop 209) (y := KernelIdeal.main_v186) (c := KernelIdeal.main_v184) (a := KernelIdeal.main_v185) (b := KernelIdeal.main_call13_v1) rfl rfl (by decide +kernel) (by decide +kernel) (by decide +kernel) (by decide +kernel)
  have eR := final_ternary (ReferenceIdeal.Hand.writes_tlOps0 (F := Ideal)) WR 203 (rest := (ReferenceIdeal.Hand.tlOps0 (F := Ideal)).drop 204) (wrest := ReferenceIdeal.Hand.wr_tlOps0.drop 204) (y := ReferenceIdeal.main_v160) (c := ReferenceIdeal.main_v158) (a := ReferenceIdeal.main_v159) (b := ReferenceIdeal.main_call14_v1) rfl rfl (by decide +kernel) (by decide +kernel) (by decide +kernel) (by decide +kernel)
  rw [eK, eR, h181 WK WR hP hLin hVal, h199 WK WR hP hLin hVal, h202 WK WR hP hLin hVal]
  try rfl
theorem h204 : StableHlo.after (KernelIdeal.Tail.ks0 (F := Ideal)) WK (Proc.devRef .tc KernelIdeal.main_c_78) = StableHlo.after (ReferenceIdeal.Hand.tlOps0 (F := Ideal)) WR (Proc.devRef .tc ReferenceIdeal.main_c_58) :=
  by
  have eK := final_nullary (KernelIdeal.Tail.writes_ks0 (F := Ideal)) WK 209 (rest := (KernelIdeal.Tail.ks0 (F := Ideal)).drop 210) (wrest := KernelIdeal.Tail.wr_ks0.drop 210) (y := KernelIdeal.main_c_78) rfl rfl (by decide +kernel)
  have eR := final_nullary (ReferenceIdeal.Hand.writes_tlOps0 (F := Ideal)) WR 204 (rest := (ReferenceIdeal.Hand.tlOps0 (F := Ideal)).drop 205) (wrest := ReferenceIdeal.Hand.wr_tlOps0.drop 205) (y := ReferenceIdeal.main_c_58) rfl rfl (by decide +kernel)
  rw [eK, eR]
  try rfl
theorem h205 : StableHlo.after (KernelIdeal.Tail.ks0 (F := Ideal)) WK (Proc.devRef .tc KernelIdeal.main_v187) = StableHlo.after (ReferenceIdeal.Hand.tlOps0 (F := Ideal)) WR (Proc.devRef .tc ReferenceIdeal.main_v161) :=
  by
  have eK := final_unary (KernelIdeal.Tail.writes_ks0 (F := Ideal)) WK 210 (rest := (KernelIdeal.Tail.ks0 (F := Ideal)).drop 211) (wrest := KernelIdeal.Tail.wr_ks0.drop 211) (y := KernelIdeal.main_v187) (x := KernelIdeal.main_c_78) rfl rfl (by decide +kernel) (by decide +kernel)
  have eR := final_unary (ReferenceIdeal.Hand.writes_tlOps0 (F := Ideal)) WR 205 (rest := (ReferenceIdeal.Hand.tlOps0 (F := Ideal)).drop 206) (wrest := ReferenceIdeal.Hand.wr_tlOps0.drop 206) (y := ReferenceIdeal.main_v161) (x := ReferenceIdeal.main_c_58) rfl rfl (by decide +kernel) (by decide +kernel)
  rw [eK, eR, h204 WK WR hP hLin hVal]
  try rfl
theorem h206 : StableHlo.after (KernelIdeal.Tail.ks0 (F := Ideal)) WK (Proc.devRef .tc KernelIdeal.main_v188) = StableHlo.after (ReferenceIdeal.Hand.tlOps0 (F := Ideal)) WR (Proc.devRef .tc ReferenceIdeal.main_v162) :=
  by
  have eK := final_binary (KernelIdeal.Tail.writes_ks0 (F := Ideal)) WK 211 (rest := (KernelIdeal.Tail.ks0 (F := Ideal)).drop 212) (wrest := KernelIdeal.Tail.wr_ks0.drop 212) (y := KernelIdeal.main_v188) (a := KernelIdeal.main_v182) (b := KernelIdeal.main_v187) rfl rfl (by decide +kernel) (by decide +kernel) (by decide +kernel)
  have eR := final_binary (ReferenceIdeal.Hand.writes_tlOps0 (F := Ideal)) WR 206 (rest := (ReferenceIdeal.Hand.tlOps0 (F := Ideal)).drop 207) (wrest := ReferenceIdeal.Hand.wr_tlOps0.drop 207) (y := ReferenceIdeal.main_v162) (a := ReferenceIdeal.main_v156) (b := ReferenceIdeal.main_v161) rfl rfl (by decide +kernel) (by decide +kernel) (by decide +kernel)
  rw [eK, eR, h178 WK WR hP hLin hVal, h205 WK WR hP hLin hVal]
  try rfl
theorem h207 : StableHlo.after (KernelIdeal.Tail.ks0 (F := Ideal)) WK (Proc.devRef .tc KernelIdeal.main_c_79) = StableHlo.after (ReferenceIdeal.Hand.tlOps0 (F := Ideal)) WR (Proc.devRef .tc ReferenceIdeal.main_c_59) :=
  by
  have eK := final_nullary (KernelIdeal.Tail.writes_ks0 (F := Ideal)) WK 212 (rest := (KernelIdeal.Tail.ks0 (F := Ideal)).drop 213) (wrest := KernelIdeal.Tail.wr_ks0.drop 213) (y := KernelIdeal.main_c_79) rfl rfl (by decide +kernel)
  have eR := final_nullary (ReferenceIdeal.Hand.writes_tlOps0 (F := Ideal)) WR 207 (rest := (ReferenceIdeal.Hand.tlOps0 (F := Ideal)).drop 208) (wrest := ReferenceIdeal.Hand.wr_tlOps0.drop 208) (y := ReferenceIdeal.main_c_59) rfl rfl (by decide +kernel)
  rw [eK, eR]
  try rfl
theorem h208 : StableHlo.after (KernelIdeal.Tail.ks0 (F := Ideal)) WK (Proc.devRef .tc KernelIdeal.main_call14_v0) = StableHlo.after (ReferenceIdeal.Hand.tlOps0 (F := Ideal)) WR (Proc.devRef .tc ReferenceIdeal.main_call15_v0) :=
  by
  have eK := final_unary (KernelIdeal.Tail.writes_ks0 (F := Ideal)) WK 213 (rest := (KernelIdeal.Tail.ks0 (F := Ideal)).drop 214) (wrest := KernelIdeal.Tail.wr_ks0.drop 214) (y := KernelIdeal.main_call14_v0) (x := KernelIdeal.main_c_79) rfl rfl (by decide +kernel) (by decide +kernel)
  have eR := final_unary (ReferenceIdeal.Hand.writes_tlOps0 (F := Ideal)) WR 208 (rest := (ReferenceIdeal.Hand.tlOps0 (F := Ideal)).drop 209) (wrest := ReferenceIdeal.Hand.wr_tlOps0.drop 209) (y := ReferenceIdeal.main_call15_v0) (x := ReferenceIdeal.main_c_59) rfl rfl (by decide +kernel) (by decide +kernel)
  rw [eK, eR, h207 WK WR hP hLin hVal]
  try rfl
theorem h209 : StableHlo.after (KernelIdeal.Tail.ks0 (F := Ideal)) WK (Proc.devRef .tc KernelIdeal.main_call14_v1) = StableHlo.after (ReferenceIdeal.Hand.tlOps0 (F := Ideal)) WR (Proc.devRef .tc ReferenceIdeal.main_call15_v1) :=
  by
  have eK := final_unary (KernelIdeal.Tail.writes_ks0 (F := Ideal)) WK 214 (rest := (KernelIdeal.Tail.ks0 (F := Ideal)).drop 215) (wrest := KernelIdeal.Tail.wr_ks0.drop 215) (y := KernelIdeal.main_call14_v1) (x := KernelIdeal.main_call14_v0) rfl rfl (by decide +kernel) (by decide +kernel)
  have eR := final_unary (ReferenceIdeal.Hand.writes_tlOps0 (F := Ideal)) WR 209 (rest := (ReferenceIdeal.Hand.tlOps0 (F := Ideal)).drop 210) (wrest := ReferenceIdeal.Hand.wr_tlOps0.drop 210) (y := ReferenceIdeal.main_call15_v1) (x := ReferenceIdeal.main_call15_v0) rfl rfl (by decide +kernel) (by decide +kernel)
  rw [eK, eR, h208 WK WR hP hLin hVal]
  try rfl
theorem h210 : StableHlo.after (KernelIdeal.Tail.ks0 (F := Ideal)) WK (Proc.devRef .tc KernelIdeal.main_call14_v2) = StableHlo.after (ReferenceIdeal.Hand.tlOps0 (F := Ideal)) WR (Proc.devRef .tc ReferenceIdeal.main_call15_v2) :=
  by
  have eK := final_binary (KernelIdeal.Tail.writes_ks0 (F := Ideal)) WK 215 (rest := (KernelIdeal.Tail.ks0 (F := Ideal)).drop 216) (wrest := KernelIdeal.Tail.wr_ks0.drop 216) (y := KernelIdeal.main_call14_v2) (a := KernelIdeal.main_v182) (b := KernelIdeal.main_call14_v1) rfl rfl (by decide +kernel) (by decide +kernel) (by decide +kernel)
  have eR := final_binary (ReferenceIdeal.Hand.writes_tlOps0 (F := Ideal)) WR 210 (rest := (ReferenceIdeal.Hand.tlOps0 (F := Ideal)).drop 211) (wrest := ReferenceIdeal.Hand.wr_tlOps0.drop 211) (y := ReferenceIdeal.main_call15_v2) (a := ReferenceIdeal.main_v156) (b := ReferenceIdeal.main_call15_v1) rfl rfl (by decide +kernel) (by decide +kernel) (by decide +kernel)
  rw [eK, eR, h178 WK WR hP hLin hVal, h209 WK WR hP hLin hVal]
  try rfl
theorem h211 : StableHlo.after (KernelIdeal.Tail.ks0 (F := Ideal)) WK (Proc.devRef .tc KernelIdeal.main_call14_v3) = StableHlo.after (ReferenceIdeal.Hand.tlOps0 (F := Ideal)) WR (Proc.devRef .tc ReferenceIdeal.main_call15_v3) :=
  by
  have eK := final_unary (KernelIdeal.Tail.writes_ks0 (F := Ideal)) WK 216 (rest := (KernelIdeal.Tail.ks0 (F := Ideal)).drop 217) (wrest := KernelIdeal.Tail.wr_ks0.drop 217) (y := KernelIdeal.main_call14_v3) (x := KernelIdeal.main_v182) rfl rfl (by decide +kernel) (by decide +kernel)
  have eR := final_unary (ReferenceIdeal.Hand.writes_tlOps0 (F := Ideal)) WR 211 (rest := (ReferenceIdeal.Hand.tlOps0 (F := Ideal)).drop 212) (wrest := ReferenceIdeal.Hand.wr_tlOps0.drop 212) (y := ReferenceIdeal.main_call15_v3) (x := ReferenceIdeal.main_v156) rfl rfl (by decide +kernel) (by decide +kernel)
  rw [eK, eR, h178 WK WR hP hLin hVal]
  try rfl
theorem h212 : StableHlo.after (KernelIdeal.Tail.ks0 (F := Ideal)) WK (Proc.devRef .tc KernelIdeal.main_call14_v4) = StableHlo.after (ReferenceIdeal.Hand.tlOps0 (F := Ideal)) WR (Proc.devRef .tc ReferenceIdeal.main_call15_v4) :=
  by
  have eK := final_unary (KernelIdeal.Tail.writes_ks0 (F := Ideal)) WK 217 (rest := (KernelIdeal.Tail.ks0 (F := Ideal)).drop 218) (wrest := KernelIdeal.Tail.wr_ks0.drop 218) (y := KernelIdeal.main_call14_v4) (x := KernelIdeal.main_call14_v0) rfl rfl (by decide +kernel) (by decide +kernel)
  have eR := final_unary (ReferenceIdeal.Hand.writes_tlOps0 (F := Ideal)) WR 212 (rest := (ReferenceIdeal.Hand.tlOps0 (F := Ideal)).drop 213) (wrest := ReferenceIdeal.Hand.wr_tlOps0.drop 213) (y := ReferenceIdeal.main_call15_v4) (x := ReferenceIdeal.main_call15_v0) rfl rfl (by decide +kernel) (by decide +kernel)
  rw [eK, eR, h208 WK WR hP hLin hVal]
  try rfl
theorem h213 : StableHlo.after (KernelIdeal.Tail.ks0 (F := Ideal)) WK (Proc.devRef .tc KernelIdeal.main_call14_v5) = StableHlo.after (ReferenceIdeal.Hand.tlOps0 (F := Ideal)) WR (Proc.devRef .tc ReferenceIdeal.main_call15_v5) :=
  by
  have eK := final_unary (KernelIdeal.Tail.writes_ks0 (F := Ideal)) WK 218 (rest := (KernelIdeal.Tail.ks0 (F := Ideal)).drop 219) (wrest := KernelIdeal.Tail.wr_ks0.drop 219) (y := KernelIdeal.main_call14_v5) (x := KernelIdeal.main_call14_v4) rfl rfl (by decide +kernel) (by decide +kernel)
  have eR := final_unary (ReferenceIdeal.Hand.writes_tlOps0 (F := Ideal)) WR 213 (rest := (ReferenceIdeal.Hand.tlOps0 (F := Ideal)).drop 214) (wrest := ReferenceIdeal.Hand.wr_tlOps0.drop 214) (y := ReferenceIdeal.main_call15_v5) (x := ReferenceIdeal.main_call15_v4) rfl rfl (by decide +kernel) (by decide +kernel)
  rw [eK, eR, h212 WK WR hP hLin hVal]
  try rfl
theorem h214 : StableHlo.after (KernelIdeal.Tail.ks0 (F := Ideal)) WK (Proc.devRef .tc KernelIdeal.main_call14_v6) = StableHlo.after (ReferenceIdeal.Hand.tlOps0 (F := Ideal)) WR (Proc.devRef .tc ReferenceIdeal.main_call15_v6) :=
  by
  have eK := final_binary (KernelIdeal.Tail.writes_ks0 (F := Ideal)) WK 219 (rest := (KernelIdeal.Tail.ks0 (F := Ideal)).drop 220) (wrest := KernelIdeal.Tail.wr_ks0.drop 220) (y := KernelIdeal.main_call14_v6) (a := KernelIdeal.main_call14_v3) (b := KernelIdeal.main_call14_v5) rfl rfl (by decide +kernel) (by decide +kernel) (by decide +kernel)
  have eR := final_binary (ReferenceIdeal.Hand.writes_tlOps0 (F := Ideal)) WR 214 (rest := (ReferenceIdeal.Hand.tlOps0 (F := Ideal)).drop 215) (wrest := ReferenceIdeal.Hand.wr_tlOps0.drop 215) (y := ReferenceIdeal.main_call15_v6) (a := ReferenceIdeal.main_call15_v3) (b := ReferenceIdeal.main_call15_v5) rfl rfl (by decide +kernel) (by decide +kernel) (by decide +kernel)
  rw [eK, eR, h211 WK WR hP hLin hVal, h213 WK WR hP hLin hVal]
  try rfl
theorem h215 : StableHlo.after (KernelIdeal.Tail.ks0 (F := Ideal)) WK (Proc.devRef .tc KernelIdeal.main_call14_v7) = StableHlo.after (ReferenceIdeal.Hand.tlOps0 (F := Ideal)) WR (Proc.devRef .tc ReferenceIdeal.main_call15_v7) :=
  by
  have eK := final_unary (KernelIdeal.Tail.writes_ks0 (F := Ideal)) WK 220 (rest := (KernelIdeal.Tail.ks0 (F := Ideal)).drop 221) (wrest := KernelIdeal.Tail.wr_ks0.drop 221) (y := KernelIdeal.main_call14_v7) (x := KernelIdeal.main_call14_v0) rfl rfl (by decide +kernel) (by decide +kernel)
  have eR := final_unary (ReferenceIdeal.Hand.writes_tlOps0 (F := Ideal)) WR 215 (rest := (ReferenceIdeal.Hand.tlOps0 (F := Ideal)).drop 216) (wrest := ReferenceIdeal.Hand.wr_tlOps0.drop 216) (y := ReferenceIdeal.main_call15_v7) (x := ReferenceIdeal.main_call15_v0) rfl rfl (by decide +kernel) (by decide +kernel)
  rw [eK, eR, h208 WK WR hP hLin hVal]
  try rfl
theorem h216 : StableHlo.after (KernelIdeal.Tail.ks0 (F := Ideal)) WK (Proc.devRef .tc KernelIdeal.main_call14_v8) = StableHlo.after (ReferenceIdeal.Hand.tlOps0 (F := Ideal)) WR (Proc.devRef .tc ReferenceIdeal.main_call15_v8) :=
  by
  have eK := final_binary (KernelIdeal.Tail.writes_ks0 (F := Ideal)) WK 221 (rest := (KernelIdeal.Tail.ks0 (F := Ideal)).drop 222) (wrest := KernelIdeal.Tail.wr_ks0.drop 222) (y := KernelIdeal.main_call14_v8) (a := KernelIdeal.main_v182) (b := KernelIdeal.main_call14_v7) rfl rfl (by decide +kernel) (by decide +kernel) (by decide +kernel)
  have eR := final_binary (ReferenceIdeal.Hand.writes_tlOps0 (F := Ideal)) WR 216 (rest := (ReferenceIdeal.Hand.tlOps0 (F := Ideal)).drop 217) (wrest := ReferenceIdeal.Hand.wr_tlOps0.drop 217) (y := ReferenceIdeal.main_call15_v8) (a := ReferenceIdeal.main_v156) (b := ReferenceIdeal.main_call15_v7) rfl rfl (by decide +kernel) (by decide +kernel) (by decide +kernel)
  rw [eK, eR, h178 WK WR hP hLin hVal, h215 WK WR hP hLin hVal]
  try rfl
theorem h217 : StableHlo.after (KernelIdeal.Tail.ks0 (F := Ideal)) WK (Proc.devRef .tc KernelIdeal.main_call14_c) = StableHlo.after (ReferenceIdeal.Hand.tlOps0 (F := Ideal)) WR (Proc.devRef .tc ReferenceIdeal.main_call15_c) :=
  by
  have eK := final_nullary (KernelIdeal.Tail.writes_ks0 (F := Ideal)) WK 222 (rest := (KernelIdeal.Tail.ks0 (F := Ideal)).drop 223) (wrest := KernelIdeal.Tail.wr_ks0.drop 223) (y := KernelIdeal.main_call14_c) rfl rfl (by decide +kernel)
  have eR := final_nullary (ReferenceIdeal.Hand.writes_tlOps0 (F := Ideal)) WR 217 (rest := (ReferenceIdeal.Hand.tlOps0 (F := Ideal)).drop 218) (wrest := ReferenceIdeal.Hand.wr_tlOps0.drop 218) (y := ReferenceIdeal.main_call15_c) rfl rfl (by decide +kernel)
  rw [eK, eR]
  try rfl
theorem h218 : StableHlo.after (KernelIdeal.Tail.ks0 (F := Ideal)) WK (Proc.devRef .tc KernelIdeal.main_call14_v9) = StableHlo.after (ReferenceIdeal.Hand.tlOps0 (F := Ideal)) WR (Proc.devRef .tc ReferenceIdeal.main_call15_v9) :=
  by
  have eK := final_unary (KernelIdeal.Tail.writes_ks0 (F := Ideal)) WK 223 (rest := (KernelIdeal.Tail.ks0 (F := Ideal)).drop 224) (wrest := KernelIdeal.Tail.wr_ks0.drop 224) (y := KernelIdeal.main_call14_v9) (x := KernelIdeal.main_call14_c) rfl rfl (by decide +kernel) (by decide +kernel)
  have eR := final_unary (ReferenceIdeal.Hand.writes_tlOps0 (F := Ideal)) WR 218 (rest := (ReferenceIdeal.Hand.tlOps0 (F := Ideal)).drop 219) (wrest := ReferenceIdeal.Hand.wr_tlOps0.drop 219) (y := ReferenceIdeal.main_call15_v9) (x := ReferenceIdeal.main_call15_c) rfl rfl (by decide +kernel) (by decide +kernel)
  rw [eK, eR, h217 WK WR hP hLin hVal]
  try rfl
theorem h219 : StableHlo.after (KernelIdeal.Tail.ks0 (F := Ideal)) WK (Proc.devRef .tc KernelIdeal.main_call14_v10) = StableHlo.after (ReferenceIdeal.Hand.tlOps0 (F := Ideal)) WR (Proc.devRef .tc ReferenceIdeal.main_call15_v10) :=
  by
  have eK := final_binary (KernelIdeal.Tail.writes_ks0 (F := Ideal)) WK 224 (rest := (KernelIdeal.Tail.ks0 (F := Ideal)).drop 225) (wrest := KernelIdeal.Tail.wr_ks0.drop 225) (y := KernelIdeal.main_call14_v10) (a := KernelIdeal.main_call14_v8) (b := KernelIdeal.main_call14_v9) rfl rfl (by decide +kernel) (by decide +kernel) (by decide +kernel)
  have eR := final_binary (ReferenceIdeal.Hand.writes_tlOps0 (F := Ideal)) WR 219 (rest := (ReferenceIdeal.Hand.tlOps0 (F := Ideal)).drop 220) (wrest := ReferenceIdeal.Hand.wr_tlOps0.drop 220) (y := ReferenceIdeal.main_call15_v10) (a := ReferenceIdeal.main_call15_v8) (b := ReferenceIdeal.main_call15_v9) rfl rfl (by decide +kernel) (by decide +kernel) (by decide +kernel)
  rw [eK, eR, h216 WK WR hP hLin hVal, h218 WK WR hP hLin hVal]
  try rfl
theorem h220 : StableHlo.after (KernelIdeal.Tail.ks0 (F := Ideal)) WK (Proc.devRef .tc KernelIdeal.main_call14_v11) = StableHlo.after (ReferenceIdeal.Hand.tlOps0 (F := Ideal)) WR (Proc.devRef .tc ReferenceIdeal.main_call15_v11) :=
  by
  have eK := final_binary (KernelIdeal.Tail.writes_ks0 (F := Ideal)) WK 225 (rest := (KernelIdeal.Tail.ks0 (F := Ideal)).drop 226) (wrest := KernelIdeal.Tail.wr_ks0.drop 226) (y := KernelIdeal.main_call14_v11) (a := KernelIdeal.main_call14_v6) (b := KernelIdeal.main_call14_v10) rfl rfl (by decide +kernel) (by decide +kernel) (by decide +kernel)
  have eR := final_binary (ReferenceIdeal.Hand.writes_tlOps0 (F := Ideal)) WR 220 (rest := (ReferenceIdeal.Hand.tlOps0 (F := Ideal)).drop 221) (wrest := ReferenceIdeal.Hand.wr_tlOps0.drop 221) (y := ReferenceIdeal.main_call15_v11) (a := ReferenceIdeal.main_call15_v6) (b := ReferenceIdeal.main_call15_v10) rfl rfl (by decide +kernel) (by decide +kernel) (by decide +kernel)
  rw [eK, eR, h214 WK WR hP hLin hVal, h219 WK WR hP hLin hVal]
  try rfl
theorem h221 : StableHlo.after (KernelIdeal.Tail.ks0 (F := Ideal)) WK (Proc.devRef .tc KernelIdeal.main_call14_c_0) = StableHlo.after (ReferenceIdeal.Hand.tlOps0 (F := Ideal)) WR (Proc.devRef .tc ReferenceIdeal.main_call15_c_0) :=
  by
  have eK := final_nullary (KernelIdeal.Tail.writes_ks0 (F := Ideal)) WK 226 (rest := (KernelIdeal.Tail.ks0 (F := Ideal)).drop 227) (wrest := KernelIdeal.Tail.wr_ks0.drop 227) (y := KernelIdeal.main_call14_c_0) rfl rfl (by decide +kernel)
  have eR := final_nullary (ReferenceIdeal.Hand.writes_tlOps0 (F := Ideal)) WR 221 (rest := (ReferenceIdeal.Hand.tlOps0 (F := Ideal)).drop 222) (wrest := ReferenceIdeal.Hand.wr_tlOps0.drop 222) (y := ReferenceIdeal.main_call15_c_0) rfl rfl (by decide +kernel)
  rw [eK, eR]
  try rfl
theorem h222 : StableHlo.after (KernelIdeal.Tail.ks0 (F := Ideal)) WK (Proc.devRef .tc KernelIdeal.main_call14_v12) = StableHlo.after (ReferenceIdeal.Hand.tlOps0 (F := Ideal)) WR (Proc.devRef .tc ReferenceIdeal.main_call15_v12) :=
  by
  have eK := final_unary (KernelIdeal.Tail.writes_ks0 (F := Ideal)) WK 227 (rest := (KernelIdeal.Tail.ks0 (F := Ideal)).drop 228) (wrest := KernelIdeal.Tail.wr_ks0.drop 228) (y := KernelIdeal.main_call14_v12) (x := KernelIdeal.main_call14_c_0) rfl rfl (by decide +kernel) (by decide +kernel)
  have eR := final_unary (ReferenceIdeal.Hand.writes_tlOps0 (F := Ideal)) WR 222 (rest := (ReferenceIdeal.Hand.tlOps0 (F := Ideal)).drop 223) (wrest := ReferenceIdeal.Hand.wr_tlOps0.drop 223) (y := ReferenceIdeal.main_call15_v12) (x := ReferenceIdeal.main_call15_c_0) rfl rfl (by decide +kernel) (by decide +kernel)
  rw [eK, eR, h221 WK WR hP hLin hVal]
  try rfl
theorem h223 : StableHlo.after (KernelIdeal.Tail.ks0 (F := Ideal)) WK (Proc.devRef .tc KernelIdeal.main_call14_v13) = StableHlo.after (ReferenceIdeal.Hand.tlOps0 (F := Ideal)) WR (Proc.devRef .tc ReferenceIdeal.main_call15_v13) :=
  by
  have eK := final_binary (KernelIdeal.Tail.writes_ks0 (F := Ideal)) WK 228 (rest := (KernelIdeal.Tail.ks0 (F := Ideal)).drop 229) (wrest := KernelIdeal.Tail.wr_ks0.drop 229) (y := KernelIdeal.main_call14_v13) (a := KernelIdeal.main_call14_v2) (b := KernelIdeal.main_call14_v12) rfl rfl (by decide +kernel) (by decide +kernel) (by decide +kernel)
  have eR := final_binary (ReferenceIdeal.Hand.writes_tlOps0 (F := Ideal)) WR 223 (rest := (ReferenceIdeal.Hand.tlOps0 (F := Ideal)).drop 224) (wrest := ReferenceIdeal.Hand.wr_tlOps0.drop 224) (y := ReferenceIdeal.main_call15_v13) (a := ReferenceIdeal.main_call15_v2) (b := ReferenceIdeal.main_call15_v12) rfl rfl (by decide +kernel) (by decide +kernel) (by decide +kernel)
  rw [eK, eR, h210 WK WR hP hLin hVal, h222 WK WR hP hLin hVal]
  try rfl
theorem h224 : StableHlo.after (KernelIdeal.Tail.ks0 (F := Ideal)) WK (Proc.devRef .tc KernelIdeal.main_v189) = StableHlo.after (ReferenceIdeal.Hand.tlOps0 (F := Ideal)) WR (Proc.devRef .tc ReferenceIdeal.main_v163) :=
  by
  have eK := final_ternary (KernelIdeal.Tail.writes_ks0 (F := Ideal)) WK 229 (rest := (KernelIdeal.Tail.ks0 (F := Ideal)).drop 230) (wrest := KernelIdeal.Tail.wr_ks0.drop 230) (y := KernelIdeal.main_v189) (c := KernelIdeal.main_call14_v11) (a := KernelIdeal.main_call14_v13) (b := KernelIdeal.main_call14_v2) rfl rfl (by decide +kernel) (by decide +kernel) (by decide +kernel) (by decide +kernel)
  have eR := final_ternary (ReferenceIdeal.Hand.writes_tlOps0 (F := Ideal)) WR 224 (rest := (ReferenceIdeal.Hand.tlOps0 (F := Ideal)).drop 225) (wrest := ReferenceIdeal.Hand.wr_tlOps0.drop 225) (y := ReferenceIdeal.main_v163) (c := ReferenceIdeal.main_call15_v11) (a := ReferenceIdeal.main_call15_v13) (b := ReferenceIdeal.main_call15_v2) rfl rfl (by decide +kernel) (by decide +kernel) (by decide +kernel) (by decide +kernel)
  rw [eK, eR, h220 WK WR hP hLin hVal, h223 WK WR hP hLin hVal, h210 WK WR hP hLin hVal]
  try rfl
theorem h225 : StableHlo.after (KernelIdeal.Tail.ks0 (F := Ideal)) WK (Proc.devRef .tc KernelIdeal.main_c_80) = StableHlo.after (ReferenceIdeal.Hand.tlOps0 (F := Ideal)) WR (Proc.devRef .tc ReferenceIdeal.main_c_60) :=
  by
  have eK := final_nullary (KernelIdeal.Tail.writes_ks0 (F := Ideal)) WK 230 (rest := (KernelIdeal.Tail.ks0 (F := Ideal)).drop 231) (wrest := KernelIdeal.Tail.wr_ks0.drop 231) (y := KernelIdeal.main_c_80) rfl rfl (by decide +kernel)
  have eR := final_nullary (ReferenceIdeal.Hand.writes_tlOps0 (F := Ideal)) WR 225 (rest := (ReferenceIdeal.Hand.tlOps0 (F := Ideal)).drop 226) (wrest := ReferenceIdeal.Hand.wr_tlOps0.drop 226) (y := ReferenceIdeal.main_c_60) rfl rfl (by decide +kernel)
  rw [eK, eR]
  try rfl
theorem h226 : StableHlo.after (KernelIdeal.Tail.ks0 (F := Ideal)) WK (Proc.devRef .tc KernelIdeal.main_call15_v0) = StableHlo.after (ReferenceIdeal.Hand.tlOps0 (F := Ideal)) WR (Proc.devRef .tc ReferenceIdeal.main_call16_v0) :=
  by
  have eK := final_unary (KernelIdeal.Tail.writes_ks0 (F := Ideal)) WK 231 (rest := (KernelIdeal.Tail.ks0 (F := Ideal)).drop 232) (wrest := KernelIdeal.Tail.wr_ks0.drop 232) (y := KernelIdeal.main_call15_v0) (x := KernelIdeal.main_c_80) rfl rfl (by decide +kernel) (by decide +kernel)
  have eR := final_unary (ReferenceIdeal.Hand.writes_tlOps0 (F := Ideal)) WR 226 (rest := (ReferenceIdeal.Hand.tlOps0 (F := Ideal)).drop 227) (wrest := ReferenceIdeal.Hand.wr_tlOps0.drop 227) (y := ReferenceIdeal.main_call16_v0) (x := ReferenceIdeal.main_c_60) rfl rfl (by decide +kernel) (by decide +kernel)
  rw [eK, eR, h225 WK WR hP hLin hVal]
  try rfl
theorem h227 : StableHlo.after (KernelIdeal.Tail.ks0 (F := Ideal)) WK (Proc.devRef .tc KernelIdeal.main_call15_c) = StableHlo.after (ReferenceIdeal.Hand.tlOps0 (F := Ideal)) WR (Proc.devRef .tc ReferenceIdeal.main_call16_c) :=
  by
  have eK := final_nullary (KernelIdeal.Tail.writes_ks0 (F := Ideal)) WK 232 (rest := (KernelIdeal.Tail.ks0 (F := Ideal)).drop 233) (wrest := KernelIdeal.Tail.wr_ks0.drop 233) (y := KernelIdeal.main_call15_c) rfl rfl (by decide +kernel)
  have eR := final_nullary (ReferenceIdeal.Hand.writes_tlOps0 (F := Ideal)) WR 227 (rest := (ReferenceIdeal.Hand.tlOps0 (F := Ideal)).drop 228) (wrest := ReferenceIdeal.Hand.wr_tlOps0.drop 228) (y := ReferenceIdeal.main_call16_c) rfl rfl (by decide +kernel)
  rw [eK, eR]
  try rfl
theorem h228 : StableHlo.after (KernelIdeal.Tail.ks0 (F := Ideal)) WK (Proc.devRef .tc KernelIdeal.main_call15_v1) = StableHlo.after (ReferenceIdeal.Hand.tlOps0 (F := Ideal)) WR (Proc.devRef .tc ReferenceIdeal.main_call16_v1) :=
  by
  have eK := final_binary (KernelIdeal.Tail.writes_ks0 (F := Ideal)) WK 233 (rest := (KernelIdeal.Tail.ks0 (F := Ideal)).drop 234) (wrest := KernelIdeal.Tail.wr_ks0.drop 234) (y := KernelIdeal.main_call15_v1) (a := KernelIdeal.main_call15_v0) (b := KernelIdeal.main_call15_c) rfl rfl (by decide +kernel) (by decide +kernel) (by decide +kernel)
  have eR := final_binary (ReferenceIdeal.Hand.writes_tlOps0 (F := Ideal)) WR 228 (rest := (ReferenceIdeal.Hand.tlOps0 (F := Ideal)).drop 229) (wrest := ReferenceIdeal.Hand.wr_tlOps0.drop 229) (y := ReferenceIdeal.main_call16_v1) (a := ReferenceIdeal.main_call16_v0) (b := ReferenceIdeal.main_call16_c) rfl rfl (by decide +kernel) (by decide +kernel) (by decide +kernel)
  rw [eK, eR, h226 WK WR hP hLin hVal, h227 WK WR hP hLin hVal]
  try rfl
theorem h229 : StableHlo.after (KernelIdeal.Tail.ks0 (F := Ideal)) WK (Proc.devRef .tc KernelIdeal.main_call15_c_0) = StableHlo.after (ReferenceIdeal.Hand.tlOps0 (F := Ideal)) WR (Proc.devRef .tc ReferenceIdeal.main_call16_c_0) :=
  by
  have eK := final_nullary (KernelIdeal.Tail.writes_ks0 (F := Ideal)) WK 234 (rest := (KernelIdeal.Tail.ks0 (F := Ideal)).drop 235) (wrest := KernelIdeal.Tail.wr_ks0.drop 235) (y := KernelIdeal.main_call15_c_0) rfl rfl (by decide +kernel)
  have eR := final_nullary (ReferenceIdeal.Hand.writes_tlOps0 (F := Ideal)) WR 229 (rest := (ReferenceIdeal.Hand.tlOps0 (F := Ideal)).drop 230) (wrest := ReferenceIdeal.Hand.wr_tlOps0.drop 230) (y := ReferenceIdeal.main_call16_c_0) rfl rfl (by decide +kernel)
  rw [eK, eR]
  try rfl
theorem h230 : StableHlo.after (KernelIdeal.Tail.ks0 (F := Ideal)) WK (Proc.devRef .tc KernelIdeal.main_call15_v2) = StableHlo.after (ReferenceIdeal.Hand.tlOps0 (F := Ideal)) WR (Proc.devRef .tc ReferenceIdeal.main_call16_v2) :=
  by
  have eK := final_ternary (KernelIdeal.Tail.writes_ks0 (F := Ideal)) WK 235 (rest := (KernelIdeal.Tail.ks0 (F := Ideal)).drop 236) (wrest := KernelIdeal.Tail.wr_ks0.drop 236) (y := KernelIdeal.main_call15_v2) (c := KernelIdeal.main_call15_v1) (a := KernelIdeal.main_call15_c_0) (b := KernelIdeal.main_call15_v0) rfl rfl (by decide +kernel) (by decide +kernel) (by decide +kernel) (by decide +kernel)
  have eR := final_ternary (ReferenceIdeal.Hand.writes_tlOps0 (F := Ideal)) WR 230 (rest := (ReferenceIdeal.Hand.tlOps0 (F := Ideal)).drop 231) (wrest := ReferenceIdeal.Hand.wr_tlOps0.drop 231) (y := ReferenceIdeal.main_call16_v2) (c := ReferenceIdeal.main_call16_v1) (a := ReferenceIdeal.main_call16_c_0) (b := ReferenceIdeal.main_call16_v0) rfl rfl (by decide +kernel) (by decide +kernel) (by decide +kernel) (by decide +kernel)
  rw [eK, eR, h228 WK WR hP hLin hVal, h229 WK WR hP hLin hVal, h226 WK WR hP hLin hVal]
  try rfl
theorem h231 : StableHlo.after (KernelIdeal.Tail.ks0 (F := Ideal)) WK (Proc.devRef .tc KernelIdeal.main_call15_v3) = StableHlo.after (ReferenceIdeal.Hand.tlOps0 (F := Ideal)) WR (Proc.devRef .tc ReferenceIdeal.main_call16_v3) :=
  by
  have eK := final_unary (KernelIdeal.Tail.writes_ks0 (F := Ideal)) WK 236 (rest := (KernelIdeal.Tail.ks0 (F := Ideal)).drop 237) (wrest := KernelIdeal.Tail.wr_ks0.drop 237) (y := KernelIdeal.main_call15_v3) (x := KernelIdeal.main_call15_call0.v0.ref) rfl rfl (by decide +kernel) (by decide +kernel)
  have eR := final_unary (ReferenceIdeal.Hand.writes_tlOps0 (F := Ideal)) WR 231 (rest := (ReferenceIdeal.Hand.tlOps0 (F := Ideal)).drop 232) (wrest := ReferenceIdeal.Hand.wr_tlOps0.drop 232) (y := ReferenceIdeal.main_call16_v3) (x := ReferenceIdeal.main_call16_v2) rfl rfl (by decide +kernel) (by decide +kernel)
  rw [eK, eR, h230 WK WR hP hLin hVal]
  try rfl
theorem h232 : StableHlo.after (KernelIdeal.Tail.ks0 (F := Ideal)) WK (Proc.devRef .tc KernelIdeal.main_call15_v4) = StableHlo.after (ReferenceIdeal.Hand.tlOps0 (F := Ideal)) WR (Proc.devRef .tc ReferenceIdeal.main_call16_v4) :=
  by
  have eK := final_binary (KernelIdeal.Tail.writes_ks0 (F := Ideal)) WK 237 (rest := (KernelIdeal.Tail.ks0 (F := Ideal)).drop 238) (wrest := KernelIdeal.Tail.wr_ks0.drop 238) (y := KernelIdeal.main_call15_v4) (a := KernelIdeal.main_v189) (b := KernelIdeal.main_call15_v3) rfl rfl (by decide +kernel) (by decide +kernel) (by decide +kernel)
  have eR := final_binary (ReferenceIdeal.Hand.writes_tlOps0 (F := Ideal)) WR 232 (rest := (ReferenceIdeal.Hand.tlOps0 (F := Ideal)).drop 233) (wrest := ReferenceIdeal.Hand.wr_tlOps0.drop 233) (y := ReferenceIdeal.main_call16_v4) (a := ReferenceIdeal.main_v163) (b := ReferenceIdeal.main_call16_v3) rfl rfl (by decide +kernel) (by decide +kernel) (by decide +kernel)
  rw [eK, eR, h224 WK WR hP hLin hVal, h231 WK WR hP hLin hVal]
  try rfl
theorem h233 : StableHlo.after (KernelIdeal.Tail.ks0 (F := Ideal)) WK (Proc.devRef .tc KernelIdeal.main_call15_c_1) = StableHlo.after (ReferenceIdeal.Hand.tlOps0 (F := Ideal)) WR (Proc.devRef .tc ReferenceIdeal.main_call16_c_1) :=
  by
  have eK := final_nullary (KernelIdeal.Tail.writes_ks0 (F := Ideal)) WK 238 (rest := (KernelIdeal.Tail.ks0 (F := Ideal)).drop 239) (wrest := KernelIdeal.Tail.wr_ks0.drop 239) (y := KernelIdeal.main_call15_c_1) rfl rfl (by decide +kernel)
  have eR := final_nullary (ReferenceIdeal.Hand.writes_tlOps0 (F := Ideal)) WR 233 (rest := (ReferenceIdeal.Hand.tlOps0 (F := Ideal)).drop 234) (wrest := ReferenceIdeal.Hand.wr_tlOps0.drop 234) (y := ReferenceIdeal.main_call16_c_1) rfl rfl (by decide +kernel)
  rw [eK, eR]
  try rfl
theorem h234 : StableHlo.after (KernelIdeal.Tail.ks0 (F := Ideal)) WK (Proc.devRef .tc KernelIdeal.main_call15_v5) = StableHlo.after (ReferenceIdeal.Hand.tlOps0 (F := Ideal)) WR (Proc.devRef .tc ReferenceIdeal.main_call16_v5) :=
  by
  have eK := final_unary (KernelIdeal.Tail.writes_ks0 (F := Ideal)) WK 239 (rest := (KernelIdeal.Tail.ks0 (F := Ideal)).drop 240) (wrest := KernelIdeal.Tail.wr_ks0.drop 240) (y := KernelIdeal.main_call15_v5) (x := KernelIdeal.main_call15_c_1) rfl rfl (by decide +kernel) (by decide +kernel)
  have eR := final_unary (ReferenceIdeal.Hand.writes_tlOps0 (F := Ideal)) WR 234 (rest := (ReferenceIdeal.Hand.tlOps0 (F := Ideal)).drop 235) (wrest := ReferenceIdeal.Hand.wr_tlOps0.drop 235) (y := ReferenceIdeal.main_call16_v5) (x := ReferenceIdeal.main_call16_c_1) rfl rfl (by decide +kernel) (by decide +kernel)
  rw [eK, eR, h233 WK WR hP hLin hVal]
  try rfl
theorem h235 : StableHlo.after (KernelIdeal.Tail.ks0 (F := Ideal)) WK (Proc.devRef .tc KernelIdeal.main_call15_v6) = StableHlo.after (ReferenceIdeal.Hand.tlOps0 (F := Ideal)) WR (Proc.devRef .tc ReferenceIdeal.main_call16_v6) :=
  by
  have eK := final_binary (KernelIdeal.Tail.writes_ks0 (F := Ideal)) WK 240 (rest := (KernelIdeal.Tail.ks0 (F := Ideal)).drop 241) (wrest := KernelIdeal.Tail.wr_ks0.drop 241) (y := KernelIdeal.main_call15_v6) (a := KernelIdeal.main_call15_v4) (b := KernelIdeal.main_call15_v5) rfl rfl (by decide +kernel) (by decide +kernel) (by decide +kernel)
  have eR := final_binary (ReferenceIdeal.Hand.writes_tlOps0 (F := Ideal)) WR 235 (rest := (ReferenceIdeal.Hand.tlOps0 (F := Ideal)).drop 236) (wrest := ReferenceIdeal.Hand.wr_tlOps0.drop 236) (y := ReferenceIdeal.main_call16_v6) (a := ReferenceIdeal.main_call16_v4) (b := ReferenceIdeal.main_call16_v5) rfl rfl (by decide +kernel) (by decide +kernel) (by decide +kernel)
  rw [eK, eR, h232 WK WR hP hLin hVal, h234 WK WR hP hLin hVal]
  try rfl
theorem h236 : StableHlo.after (KernelIdeal.Tail.ks0 (F := Ideal)) WK (Proc.devRef .tc KernelIdeal.main_call15_c_2) = StableHlo.after (ReferenceIdeal.Hand.tlOps0 (F := Ideal)) WR (Proc.devRef .tc ReferenceIdeal.main_call16_c_2) :=
  by
  have eK := final_nullary (KernelIdeal.Tail.writes_ks0 (F := Ideal)) WK 241 (rest := (KernelIdeal.Tail.ks0 (F := Ideal)).drop 242) (wrest := KernelIdeal.Tail.wr_ks0.drop 242) (y := KernelIdeal.main_call15_c_2) rfl rfl (by decide +kernel)
  have eR := final_nullary (ReferenceIdeal.Hand.writes_tlOps0 (F := Ideal)) WR 236 (rest := (ReferenceIdeal.Hand.tlOps0 (F := Ideal)).drop 237) (wrest := ReferenceIdeal.Hand.wr_tlOps0.drop 237) (y := ReferenceIdeal.main_call16_c_2) rfl rfl (by decide +kernel)
  rw [eK, eR]
  try rfl
theorem h237 : StableHlo.after (KernelIdeal.Tail.ks0 (F := Ideal)) WK (Proc.devRef .tc KernelIdeal.main_call15_v7) = StableHlo.after (ReferenceIdeal.Hand.tlOps0 (F := Ideal)) WR (Proc.devRef .tc ReferenceIdeal.main_call16_v7) :=
  by
  have eK := final_unary (KernelIdeal.Tail.writes_ks0 (F := Ideal)) WK 242 (rest := (KernelIdeal.Tail.ks0 (F := Ideal)).drop 243) (wrest := KernelIdeal.Tail.wr_ks0.drop 243) (y := KernelIdeal.main_call15_v7) (x := KernelIdeal.main_call15_c_2) rfl rfl (by decide +kernel) (by decide +kernel)
  have eR := final_unary (ReferenceIdeal.Hand.writes_tlOps0 (F := Ideal)) WR 237 (rest := (ReferenceIdeal.Hand.tlOps0 (F := Ideal)).drop 238) (wrest := ReferenceIdeal.Hand.wr_tlOps0.drop 238) (y := ReferenceIdeal.main_call16_v7) (x := ReferenceIdeal.main_call16_c_2) rfl rfl (by decide +kernel) (by decide +kernel)
  rw [eK, eR, h236 WK WR hP hLin hVal]
  try rfl
theorem h238 : StableHlo.after (KernelIdeal.Tail.ks0 (F := Ideal)) WK (Proc.devRef .tc KernelIdeal.main_call15_v8) = StableHlo.after (ReferenceIdeal.Hand.tlOps0 (F := Ideal)) WR (Proc.devRef .tc ReferenceIdeal.main_call16_v8) :=
  by
  have eK := final_binary (KernelIdeal.Tail.writes_ks0 (F := Ideal)) WK 243 (rest := (KernelIdeal.Tail.ks0 (F := Ideal)).drop 244) (wrest := KernelIdeal.Tail.wr_ks0.drop 244) (y := KernelIdeal.main_call15_v8) (a := KernelIdeal.main_call15_v4) (b := KernelIdeal.main_call15_v7) rfl rfl (by decide +kernel) (by decide +kernel) (by decide +kernel)
  have eR := final_binary (ReferenceIdeal.Hand.writes_tlOps0 (F := Ideal)) WR 238 (rest := (ReferenceIdeal.Hand.tlOps0 (F := Ideal)).drop 239) (wrest := ReferenceIdeal.Hand.wr_tlOps0.drop 239) (y := ReferenceIdeal.main_call16_v8) (a := ReferenceIdeal.main_call16_v4) (b := ReferenceIdeal.main_call16_v7) rfl rfl (by decide +kernel) (by decide +kernel) (by decide +kernel)
  rw [eK, eR, h232 WK WR hP hLin hVal, h237 WK WR hP hLin hVal]
  try rfl
theorem h239 : StableHlo.after (KernelIdeal.Tail.ks0 (F := Ideal)) WK (Proc.devRef .tc KernelIdeal.main_call15_c_3) = StableHlo.after (ReferenceIdeal.Hand.tlOps0 (F := Ideal)) WR (Proc.devRef .tc ReferenceIdeal.main_call16_c_3) :=
  by
  have eK := final_nullary (KernelIdeal.Tail.writes_ks0 (F := Ideal)) WK 244 (rest := (KernelIdeal.Tail.ks0 (F := Ideal)).drop 245) (wrest := KernelIdeal.Tail.wr_ks0.drop 245) (y := KernelIdeal.main_call15_c_3) rfl rfl (by decide +kernel)
  have eR := final_nullary (ReferenceIdeal.Hand.writes_tlOps0 (F := Ideal)) WR 239 (rest := (ReferenceIdeal.Hand.tlOps0 (F := Ideal)).drop 240) (wrest := ReferenceIdeal.Hand.wr_tlOps0.drop 240) (y := ReferenceIdeal.main_call16_c_3) rfl rfl (by decide +kernel)
  rw [eK, eR]
  try rfl
theorem h240 : StableHlo.after (KernelIdeal.Tail.ks0 (F := Ideal)) WK (Proc.devRef .tc KernelIdeal.main_call15_v9) = StableHlo.after (ReferenceIdeal.Hand.tlOps0 (F := Ideal)) WR (Proc.devRef .tc ReferenceIdeal.main_call16_v9) :=
  by
  have eK := final_binary (KernelIdeal.Tail.writes_ks0 (F := Ideal)) WK 245 (rest := (KernelIdeal.Tail.ks0 (F := Ideal)).drop 246) (wrest := KernelIdeal.Tail.wr_ks0.drop 246) (y := KernelIdeal.main_call15_v9) (a := KernelIdeal.main_call15_call0.v0.ref) (b := KernelIdeal.main_call15_c_3) rfl rfl (by decide +kernel) (by decide +kernel) (by decide +kernel)
  have eR := final_binary (ReferenceIdeal.Hand.writes_tlOps0 (F := Ideal)) WR 240 (rest := (ReferenceIdeal.Hand.tlOps0 (F := Ideal)).drop 241) (wrest := ReferenceIdeal.Hand.wr_tlOps0.drop 241) (y := ReferenceIdeal.main_call16_v9) (a := ReferenceIdeal.main_call16_v2) (b := ReferenceIdeal.main_call16_c_3) rfl rfl (by decide +kernel) (by decide +kernel) (by decide +kernel)
  rw [eK, eR, h230 WK WR hP hLin hVal, h239 WK WR hP hLin hVal]
  try rfl
theorem h241 : StableHlo.after (KernelIdeal.Tail.ks0 (F := Ideal)) WK (Proc.devRef .tc KernelIdeal.main_call15_v10) = StableHlo.after (ReferenceIdeal.Hand.tlOps0 (F := Ideal)) WR (Proc.devRef .tc ReferenceIdeal.main_call16_v10) :=
  by
  have eK := final_unary (KernelIdeal.Tail.writes_ks0 (F := Ideal)) WK 246 (rest := (KernelIdeal.Tail.ks0 (F := Ideal)).drop 247) (wrest := KernelIdeal.Tail.wr_ks0.drop 247) (y := KernelIdeal.main_call15_v10) (x := KernelIdeal.main_call15_v9) rfl rfl (by decide +kernel) (by decide +kernel)
  have eR := final_unary (ReferenceIdeal.Hand.writes_tlOps0 (F := Ideal)) WR 241 (rest := (ReferenceIdeal.Hand.tlOps0 (F := Ideal)).drop 242) (wrest := ReferenceIdeal.Hand.wr_tlOps0.drop 242) (y := ReferenceIdeal.main_call16_v10) (x := ReferenceIdeal.main_call16_v9) rfl rfl (by decide +kernel) (by decide +kernel)
  rw [eK, eR, h240 WK WR hP hLin hVal]
  try rfl
theorem h242 : StableHlo.after (KernelIdeal.Tail.ks0 (F := Ideal)) WK (Proc.devRef .tc KernelIdeal.main_call15_v11) = StableHlo.after (ReferenceIdeal.Hand.tlOps0 (F := Ideal)) WR (Proc.devRef .tc ReferenceIdeal.main_call16_v11) :=
  by
  have eK := final_binary (KernelIdeal.Tail.writes_ks0 (F := Ideal)) WK 247 (rest := (KernelIdeal.Tail.ks0 (F := Ideal)).drop 248) (wrest := KernelIdeal.Tail.wr_ks0.drop 248) (y := KernelIdeal.main_call15_v11) (a := KernelIdeal.main_call15_v8) (b := KernelIdeal.main_call15_v10) rfl rfl (by decide +kernel) (by decide +kernel) (by decide +kernel)
  have eR := final_binary (ReferenceIdeal.Hand.writes_tlOps0 (F := Ideal)) WR 242 (rest := (ReferenceIdeal.Hand.tlOps0 (F := Ideal)).drop 243) (wrest := ReferenceIdeal.Hand.wr_tlOps0.drop 243) (y := ReferenceIdeal.main_call16_v11) (a := ReferenceIdeal.main_call16_v8) (b := ReferenceIdeal.main_call16_v10) rfl rfl (by decide +kernel) (by decide +kernel) (by decide +kernel)
  rw [eK, eR, h238 WK WR hP hLin hVal, h241 WK WR hP hLin hVal]
  try rfl
theorem h243 : StableHlo.after (KernelIdeal.Tail.ks0 (F := Ideal)) WK (Proc.devRef .tc KernelIdeal.main_call15_v12) = StableHlo.after (ReferenceIdeal.Hand.tlOps0 (F := Ideal)) WR (Proc.devRef .tc ReferenceIdeal.main_call16_v12) :=
  by
  have eK := final_binary (KernelIdeal.Tail.writes_ks0 (F := Ideal)) WK 248 (rest := (KernelIdeal.Tail.ks0 (F := Ideal)).drop 249) (wrest := KernelIdeal.Tail.wr_ks0.drop 249) (y := KernelIdeal.main_call15_v12) (a := KernelIdeal.main_call15_v11) (b := KernelIdeal.main_call15_v6) rfl rfl (by decide +kernel) (by decide +kernel) (by decide +kernel)
  have eR := final_binary (ReferenceIdeal.Hand.writes_tlOps0 (F := Ideal)) WR 243 (rest := (ReferenceIdeal.Hand.tlOps0 (F := Ideal)).drop 244) (wrest := ReferenceIdeal.Hand.wr_tlOps0.drop 244) (y := ReferenceIdeal.main_call16_v12) (a := ReferenceIdeal.main_call16_v11) (b := ReferenceIdeal.main_call16_v6) rfl rfl (by decide +kernel) (by decide +kernel) (by decide +kernel)
  rw [eK, eR, h242 WK WR hP hLin hVal, h235 WK WR hP hLin hVal]
  try rfl
theorem h244 : StableHlo.after (KernelIdeal.Tail.ks0 (F := Ideal)) WK (Proc.devRef .tc KernelIdeal.main_call15_v13) = StableHlo.after (ReferenceIdeal.Hand.tlOps0 (F := Ideal)) WR (Proc.devRef .tc ReferenceIdeal.main_call16_v13) :=
  by
  have eK := final_unary (KernelIdeal.Tail.writes_ks0 (F := Ideal)) WK 249 (rest := (KernelIdeal.Tail.ks0 (F := Ideal)).drop 250) (wrest := KernelIdeal.Tail.wr_ks0.drop 250) (y := KernelIdeal.main_call15_v13) (x := KernelIdeal.main_call15_call0.v0.ref) rfl rfl (by decide +kernel) (by decide +kernel)
  have eR := final_unary (ReferenceIdeal.Hand.writes_tlOps0 (F := Ideal)) WR 244 (rest := (ReferenceIdeal.Hand.tlOps0 (F := Ideal)).drop 245) (wrest := ReferenceIdeal.Hand.wr_tlOps0.drop 245) (y := ReferenceIdeal.main_call16_v13) (x := ReferenceIdeal.main_call16_v2) rfl rfl (by decide +kernel) (by decide +kernel)
  rw [eK, eR, h230 WK WR hP hLin hVal]
  try rfl
theorem h245 : StableHlo.after (KernelIdeal.Tail.ks0 (F := Ideal)) WK (Proc.devRef .tc KernelIdeal.main_call15_v14) = StableHlo.after (ReferenceIdeal.Hand.tlOps0 (F := Ideal)) WR (Proc.devRef .tc ReferenceIdeal.main_call16_v14) :=
  by
  have eK := final_binary (KernelIdeal.Tail.writes_ks0 (F := Ideal)) WK 250 (rest := (KernelIdeal.Tail.ks0 (F := Ideal)).drop 251) (wrest := KernelIdeal.Tail.wr_ks0.drop 251) (y := KernelIdeal.main_call15_v14) (a := KernelIdeal.main_call15_v4) (b := KernelIdeal.main_call15_v13) rfl rfl (by decide +kernel) (by decide +kernel) (by decide +kernel)
  have eR := final_binary (ReferenceIdeal.Hand.writes_tlOps0 (F := Ideal)) WR 245 (rest := (ReferenceIdeal.Hand.tlOps0 (F := Ideal)).drop 246) (wrest := ReferenceIdeal.Hand.wr_tlOps0.drop 246) (y := ReferenceIdeal.main_call16_v14) (a := ReferenceIdeal.main_call16_v4) (b := ReferenceIdeal.main_call16_v13) rfl rfl (by decide +kernel) (by decide +kernel) (by decide +kernel)
  rw [eK, eR, h232 WK WR hP hLin hVal, h244 WK WR hP hLin hVal]
  try rfl
theorem h246 : StableHlo.after (KernelIdeal.Tail.ks0 (F := Ideal)) WK (Proc.devRef .tc KernelIdeal.main_v190) = StableHlo.after (ReferenceIdeal.Hand.tlOps0 (F := Ideal)) WR (Proc.devRef .tc ReferenceIdeal.main_v164) :=
  by
  have eK := final_ternary (KernelIdeal.Tail.writes_ks0 (F := Ideal)) WK 251 (rest := (KernelIdeal.Tail.ks0 (F := Ideal)).drop 252) (wrest := KernelIdeal.Tail.wr_ks0.drop 252) (y := KernelIdeal.main_v190) (c := KernelIdeal.main_call15_v12) (a := KernelIdeal.main_call15_v14) (b := KernelIdeal.main_call15_v4) rfl rfl (by decide +kernel) (by decide +kernel) (by decide +kernel) (by decide +kernel)
  have eR := final_ternary (ReferenceIdeal.Hand.writes_tlOps0 (F := Ideal)) WR 246 (rest := (ReferenceIdeal.Hand.tlOps0 (F := Ideal)).drop 247) (wrest := ReferenceIdeal.Hand.wr_tlOps0.drop 247) (y := ReferenceIdeal.main_v164) (c := ReferenceIdeal.main_call16_v12) (a := ReferenceIdeal.main_call16_v14) (b := ReferenceIdeal.main_call16_v4) rfl rfl (by decide +kernel) (by decide +kernel) (by decide +kernel) (by decide +kernel)
  rw [eK, eR, h243 WK WR hP hLin hVal, h245 WK WR hP hLin hVal, h232 WK WR hP hLin hVal]
  try rfl
theorem h247 : StableHlo.after (KernelIdeal.Tail.ks0 (F := Ideal)) WK (Proc.devRef .tc KernelIdeal.main_c_81) = StableHlo.after (ReferenceIdeal.Hand.tlOps0 (F := Ideal)) WR (Proc.devRef .tc ReferenceIdeal.main_c_61) :=
  by
  have eK := final_nullary (KernelIdeal.Tail.writes_ks0 (F := Ideal)) WK 252 (rest := (KernelIdeal.Tail.ks0 (F := Ideal)).drop 253) (wrest := KernelIdeal.Tail.wr_ks0.drop 253) (y := KernelIdeal.main_c_81) rfl rfl (by decide +kernel)
  have eR := final_nullary (ReferenceIdeal.Hand.writes_tlOps0 (F := Ideal)) WR 247 (rest := (ReferenceIdeal.Hand.tlOps0 (F := Ideal)).drop 248) (wrest := ReferenceIdeal.Hand.wr_tlOps0.drop 248) (y := ReferenceIdeal.main_c_61) rfl rfl (by decide +kernel)
  rw [eK, eR]
  try rfl
theorem h248 : StableHlo.after (KernelIdeal.Tail.ks0 (F := Ideal)) WK (Proc.devRef .tc KernelIdeal.main_call16_v0) = StableHlo.after (ReferenceIdeal.Hand.tlOps0 (F := Ideal)) WR (Proc.devRef .tc ReferenceIdeal.main_call17_v0) :=
  by
  have eK := final_unary (KernelIdeal.Tail.writes_ks0 (F := Ideal)) WK 253 (rest := (KernelIdeal.Tail.ks0 (F := Ideal)).drop 254) (wrest := KernelIdeal.Tail.wr_ks0.drop 254) (y := KernelIdeal.main_call16_v0) (x := KernelIdeal.main_c_81) rfl rfl (by decide +kernel) (by decide +kernel)
  have eR := final_unary (ReferenceIdeal.Hand.writes_tlOps0 (F := Ideal)) WR 248 (rest := (ReferenceIdeal.Hand.tlOps0 (F := Ideal)).drop 249) (wrest := ReferenceIdeal.Hand.wr_tlOps0.drop 249) (y := ReferenceIdeal.main_call17_v0) (x := ReferenceIdeal.main_c_61) rfl rfl (by decide +kernel) (by decide +kernel)
  rw [eK, eR, h247 WK WR hP hLin hVal]
  try rfl
theorem h249 : StableHlo.after (KernelIdeal.Tail.ks0 (F := Ideal)) WK (Proc.devRef .tc KernelIdeal.main_call16_v1) = StableHlo.after (ReferenceIdeal.Hand.tlOps0 (F := Ideal)) WR (Proc.devRef .tc ReferenceIdeal.main_call17_v1) :=
  by
  have eK := final_unary (KernelIdeal.Tail.writes_ks0 (F := Ideal)) WK 254 (rest := (KernelIdeal.Tail.ks0 (F := Ideal)).drop 255) (wrest := KernelIdeal.Tail.wr_ks0.drop 255) (y := KernelIdeal.main_call16_v1) (x := KernelIdeal.main_call16_v0) rfl rfl (by decide +kernel) (by decide +kernel)
  have eR := final_unary (ReferenceIdeal.Hand.writes_tlOps0 (F := Ideal)) WR 249 (rest := (ReferenceIdeal.Hand.tlOps0 (F := Ideal)).drop 250) (wrest := ReferenceIdeal.Hand.wr_tlOps0.drop 250) (y := ReferenceIdeal.main_call17_v1) (x := ReferenceIdeal.main_call17_v0) rfl rfl (by decide +kernel) (by decide +kernel)
  rw [eK, eR, h248 WK WR hP hLin hVal]
  try rfl
theorem h250 : StableHlo.after (KernelIdeal.Tail.ks0 (F := Ideal)) WK (Proc.devRef .tc KernelIdeal.main_v191) = StableHlo.after (ReferenceIdeal.Hand.tlOps0 (F := Ideal)) WR (Proc.devRef .tc ReferenceIdeal.main_v165) :=
  by
  have eK := final_ternary (KernelIdeal.Tail.writes_ks0 (F := Ideal)) WK 255 (rest := (KernelIdeal.Tail.ks0 (F := Ideal)).drop 256) (wrest := KernelIdeal.Tail.wr_ks0.drop 256) (y := KernelIdeal.main_v191) (c := KernelIdeal.main_v188) (a := KernelIdeal.main_v190) (b := KernelIdeal.main_call16_v1) rfl rfl (by decide +kernel) (by decide +kernel) (by decide +kernel) (by decide +kernel)
  have eR := final_ternary (ReferenceIdeal.Hand.writes_tlOps0 (F := Ideal)) WR 250 (rest := (ReferenceIdeal.Hand.tlOps0 (F := Ideal)).drop 251) (wrest := ReferenceIdeal.Hand.wr_tlOps0.drop 251) (y := ReferenceIdeal.main_v165) (c := ReferenceIdeal.main_v162) (a := ReferenceIdeal.main_v164) (b := ReferenceIdeal.main_call17_v1) rfl rfl (by decide +kernel) (by decide +kernel) (by decide +kernel) (by decide +kernel)
  rw [eK, eR, h206 WK WR hP hLin hVal, h246 WK WR hP hLin hVal, h249 WK WR hP hLin hVal]
  try rfl
theorem h251 : StableHlo.after (KernelIdeal.Tail.ks0 (F := Ideal)) WK (Proc.devRef .tc KernelIdeal.main_c_82) = StableHlo.after (ReferenceIdeal.Hand.tlOps0 (F := Ideal)) WR (Proc.devRef .tc ReferenceIdeal.main_c_62) :=
  by
  have eK := final_nullary (KernelIdeal.Tail.writes_ks0 (F := Ideal)) WK 256 (rest := (KernelIdeal.Tail.ks0 (F := Ideal)).drop 257) (wrest := KernelIdeal.Tail.wr_ks0.drop 257) (y := KernelIdeal.main_c_82) rfl rfl (by decide +kernel)
  have eR := final_nullary (ReferenceIdeal.Hand.writes_tlOps0 (F := Ideal)) WR 251 (rest := (ReferenceIdeal.Hand.tlOps0 (F := Ideal)).drop 252) (wrest := ReferenceIdeal.Hand.wr_tlOps0.drop 252) (y := ReferenceIdeal.main_c_62) rfl rfl (by decide +kernel)
  rw [eK, eR]
  try rfl
theorem h252 : StableHlo.after (KernelIdeal.Tail.ks0 (F := Ideal)) WK (Proc.devRef .tc KernelIdeal.main_v192) = StableHlo.after (ReferenceIdeal.Hand.tlOps0 (F := Ideal)) WR (Proc.devRef .tc ReferenceIdeal.main_v166) :=
  by
  have eK := final_unary (KernelIdeal.Tail.writes_ks0 (F := Ideal)) WK 257 (rest := (KernelIdeal.Tail.ks0 (F := Ideal)).drop 258) (wrest := KernelIdeal.Tail.wr_ks0.drop 258) (y := KernelIdeal.main_v192) (x := KernelIdeal.main_c_82) rfl rfl (by decide +kernel) (by decide +kernel)
  have eR := final_unary (ReferenceIdeal.Hand.writes_tlOps0 (F := Ideal)) WR 252 (rest := (ReferenceIdeal.Hand.tlOps0 (F := Ideal)).drop 253) (wrest := ReferenceIdeal.Hand.wr_tlOps0.drop 253) (y := ReferenceIdeal.main_v166) (x := ReferenceIdeal.main_c_62) rfl rfl (by decide +kernel) (by decide +kernel)
  rw [eK, eR, h251 WK WR hP hLin hVal]
  try rfl
theorem h253 : StableHlo.after (KernelIdeal.Tail.ks0 (F := Ideal)) WK (Proc.devRef .tc KernelIdeal.main_v193) = StableHlo.after (ReferenceIdeal.Hand.tlOps0 (F := Ideal)) WR (Proc.devRef .tc ReferenceIdeal.main_v167) :=
  by
  have eK := final_binary (KernelIdeal.Tail.writes_ks0 (F := Ideal)) WK 258 (rest := (KernelIdeal.Tail.ks0 (F := Ideal)).drop 259) (wrest := KernelIdeal.Tail.wr_ks0.drop 259) (y := KernelIdeal.main_v193) (a := KernelIdeal.main_v182) (b := KernelIdeal.main_v192) rfl rfl (by decide +kernel) (by decide +kernel) (by decide +kernel)
  have eR := final_binary (ReferenceIdeal.Hand.writes_tlOps0 (F := Ideal)) WR 253 (rest := (ReferenceIdeal.Hand.tlOps0 (F := Ideal)).drop 254) (wrest := ReferenceIdeal.Hand.wr_tlOps0.drop 254) (y := ReferenceIdeal.main_v167) (a := ReferenceIdeal.main_v156) (b := ReferenceIdeal.main_v166) rfl rfl (by decide +kernel) (by decide +kernel) (by decide +kernel)
  rw [eK, eR, h178 WK WR hP hLin hVal, h252 WK WR hP hLin hVal]
  try rfl
theorem h254 : StableHlo.after (KernelIdeal.Tail.ks0 (F := Ideal)) WK (Proc.devRef .tc KernelIdeal.main_c_83) = StableHlo.after (ReferenceIdeal.Hand.tlOps0 (F := Ideal)) WR (Proc.devRef .tc ReferenceIdeal.main_c_63) :=
  by
  have eK := final_nullary (KernelIdeal.Tail.writes_ks0 (F := Ideal)) WK 259 (rest := (KernelIdeal.Tail.ks0 (F := Ideal)).drop 260) (wrest := KernelIdeal.Tail.wr_ks0.drop 260) (y := KernelIdeal.main_c_83) rfl rfl (by decide +kernel)
  have eR := final_nullary (ReferenceIdeal.Hand.writes_tlOps0 (F := Ideal)) WR 254 (rest := (ReferenceIdeal.Hand.tlOps0 (F := Ideal)).drop 255) (wrest := ReferenceIdeal.Hand.wr_tlOps0.drop 255) (y := ReferenceIdeal.main_c_63) rfl rfl (by decide +kernel)
  rw [eK, eR]
  try rfl
theorem h255 : StableHlo.after (KernelIdeal.Tail.ks0 (F := Ideal)) WK (Proc.devRef .tc KernelIdeal.main_call17_v0) = StableHlo.after (ReferenceIdeal.Hand.tlOps0 (F := Ideal)) WR (Proc.devRef .tc ReferenceIdeal.main_call18_v0) :=
  by
  have eK := final_unary (KernelIdeal.Tail.writes_ks0 (F := Ideal)) WK 260 (rest := (KernelIdeal.Tail.ks0 (F := Ideal)).drop 261) (wrest := KernelIdeal.Tail.wr_ks0.drop 261) (y := KernelIdeal.main_call17_v0) (x := KernelIdeal.main_c_83) rfl rfl (by decide +kernel) (by decide +kernel)
  have eR := final_unary (ReferenceIdeal.Hand.writes_tlOps0 (F := Ideal)) WR 255 (rest := (ReferenceIdeal.Hand.tlOps0 (F := Ideal)).drop 256) (wrest := ReferenceIdeal.Hand.wr_tlOps0.drop 256) (y := ReferenceIdeal.main_call18_v0) (x := ReferenceIdeal.main_c_63) rfl rfl (by decide +kernel) (by decide +kernel)
  rw [eK, eR, h254 WK WR hP hLin hVal]
  try rfl
theorem h256 : StableHlo.after (KernelIdeal.Tail.ks0 (F := Ideal)) WK (Proc.devRef .tc KernelIdeal.main_call17_c) = StableHlo.after (ReferenceIdeal.Hand.tlOps0 (F := Ideal)) WR (Proc.devRef .tc ReferenceIdeal.main_call18_c) :=
  by
  have eK := final_nullary (KernelIdeal.Tail.writes_ks0 (F := Ideal)) WK 261 (rest := (KernelIdeal.Tail.ks0 (F := Ideal)).drop 262) (wrest := KernelIdeal.Tail.wr_ks0.drop 262) (y := KernelIdeal.main_call17_c) rfl rfl (by decide +kernel)
  have eR := final_nullary (ReferenceIdeal.Hand.writes_tlOps0 (F := Ideal)) WR 256 (rest := (ReferenceIdeal.Hand.tlOps0 (F := Ideal)).drop 257) (wrest := ReferenceIdeal.Hand.wr_tlOps0.drop 257) (y := ReferenceIdeal.main_call18_c) rfl rfl (by decide +kernel)
  rw [eK, eR]
  try rfl
theorem h257 : StableHlo.after (KernelIdeal.Tail.ks0 (F := Ideal)) WK (Proc.devRef .tc KernelIdeal.main_call17_v1) = StableHlo.after (ReferenceIdeal.Hand.tlOps0 (F := Ideal)) WR (Proc.devRef .tc ReferenceIdeal.main_call18_v1) :=
  by
  have eK := final_binary (KernelIdeal.Tail.writes_ks0 (F := Ideal)) WK 262 (rest := (KernelIdeal.Tail.ks0 (F := Ideal)).drop 263) (wrest := KernelIdeal.Tail.wr_ks0.drop 263) (y := KernelIdeal.main_call17_v1) (a := KernelIdeal.main_call17_v0) (b := KernelIdeal.main_call17_c) rfl rfl (by decide +kernel) (by decide +kernel) (by decide +kernel)
  have eR := final_binary (ReferenceIdeal.Hand.writes_tlOps0 (F := Ideal)) WR 257 (rest := (ReferenceIdeal.Hand.tlOps0 (F := Ideal)).drop 258) (wrest := ReferenceIdeal.Hand.wr_tlOps0.drop 258) (y := ReferenceIdeal.main_call18_v1) (a := ReferenceIdeal.main_call18_v0) (b := ReferenceIdeal.main_call18_c) rfl rfl (by decide +kernel) (by decide +kernel) (by decide +kernel)
  rw [eK, eR, h255 WK WR hP hLin hVal, h256 WK WR hP hLin hVal]
  try rfl
theorem h258 : StableHlo.after (KernelIdeal.Tail.ks0 (F := Ideal)) WK (Proc.devRef .tc KernelIdeal.main_call17_c_0) = StableHlo.after (ReferenceIdeal.Hand.tlOps0 (F := Ideal)) WR (Proc.devRef .tc ReferenceIdeal.main_call18_c_0) :=
  by
  have eK := final_nullary (KernelIdeal.Tail.writes_ks0 (F := Ideal)) WK 263 (rest := (KernelIdeal.Tail.ks0 (F := Ideal)).drop 264) (wrest := KernelIdeal.Tail.wr_ks0.drop 264) (y := KernelIdeal.main_call17_c_0) rfl rfl (by decide +kernel)
  have eR := final_nullary (ReferenceIdeal.Hand.writes_tlOps0 (F := Ideal)) WR 258 (rest := (ReferenceIdeal.Hand.tlOps0 (F := Ideal)).drop 259) (wrest := ReferenceIdeal.Hand.wr_tlOps0.drop 259) (y := ReferenceIdeal.main_call18_c_0) rfl rfl (by decide +kernel)
  rw [eK, eR]
  try rfl
theorem h259 : StableHlo.after (KernelIdeal.Tail.ks0 (F := Ideal)) WK (Proc.devRef .tc KernelIdeal.main_call17_v2) = StableHlo.after (ReferenceIdeal.Hand.tlOps0 (F := Ideal)) WR (Proc.devRef .tc ReferenceIdeal.main_call18_v2) :=
  by
  have eK := final_ternary (KernelIdeal.Tail.writes_ks0 (F := Ideal)) WK 264 (rest := (KernelIdeal.Tail.ks0 (F := Ideal)).drop 265) (wrest := KernelIdeal.Tail.wr_ks0.drop 265) (y := KernelIdeal.main_call17_v2) (c := KernelIdeal.main_call17_v1) (a := KernelIdeal.main_call17_c_0) (b := KernelIdeal.main_call17_v0) rfl rfl (by decide +kernel) (by decide +kernel) (by decide +kernel) (by decide +kernel)
  have eR := final_ternary (ReferenceIdeal.Hand.writes_tlOps0 (F := Ideal)) WR 259 (rest := (ReferenceIdeal.Hand.tlOps0 (F := Ideal)).drop 260) (wrest := ReferenceIdeal.Hand.wr_tlOps0.drop 260) (y := ReferenceIdeal.main_call18_v2) (c := ReferenceIdeal.main_call18_v1) (a := ReferenceIdeal.main_call18_c_0) (b := ReferenceIdeal.main_call18_v0) rfl rfl (by decide +kernel) (by decide +kernel) (by decide +kernel) (by decide +kernel)
  rw [eK, eR, h257 WK WR hP hLin hVal, h258 WK WR hP hLin hVal, h255 WK WR hP hLin hVal]
  try rfl
theorem h260 : StableHlo.after (KernelIdeal.Tail.ks0 (F := Ideal)) WK (Proc.devRef .tc KernelIdeal.main_call17_v3) = StableHlo.after (ReferenceIdeal.Hand.tlOps0 (F := Ideal)) WR (Proc.devRef .tc ReferenceIdeal.main_call18_v3) :=
  by
  have eK := final_unary (KernelIdeal.Tail.writes_ks0 (F := Ideal)) WK 265 (rest := (KernelIdeal.Tail.ks0 (F := Ideal)).drop 266) (wrest := KernelIdeal.Tail.wr_ks0.drop 266) (y := KernelIdeal.main_call17_v3) (x := KernelIdeal.main_call17_call0.v0.ref) rfl rfl (by decide +kernel) (by decide +kernel)
  have eR := final_unary (ReferenceIdeal.Hand.writes_tlOps0 (F := Ideal)) WR 260 (rest := (ReferenceIdeal.Hand.tlOps0 (F := Ideal)).drop 261) (wrest := ReferenceIdeal.Hand.wr_tlOps0.drop 261) (y := ReferenceIdeal.main_call18_v3) (x := ReferenceIdeal.main_call18_v2) rfl rfl (by decide +kernel) (by decide +kernel)
  rw [eK, eR, h259 WK WR hP hLin hVal]
  try rfl
theorem h261 : StableHlo.after (KernelIdeal.Tail.ks0 (F := Ideal)) WK (Proc.devRef .tc KernelIdeal.main_call17_v4) = StableHlo.after (ReferenceIdeal.Hand.tlOps0 (F := Ideal)) WR (Proc.devRef .tc ReferenceIdeal.main_call18_v4) :=
  by
  have eK := final_binary (KernelIdeal.Tail.writes_ks0 (F := Ideal)) WK 266 (rest := (KernelIdeal.Tail.ks0 (F := Ideal)).drop 267) (wrest := KernelIdeal.Tail.wr_ks0.drop 267) (y := KernelIdeal.main_call17_v4) (a := KernelIdeal.main_v182) (b := KernelIdeal.main_call17_v3) rfl rfl (by decide +kernel) (by decide +kernel) (by decide +kernel)
  have eR := final_binary (ReferenceIdeal.Hand.writes_tlOps0 (F := Ideal)) WR 261 (rest := (ReferenceIdeal.Hand.tlOps0 (F := Ideal)).drop 262) (wrest := ReferenceIdeal.Hand.wr_tlOps0.drop 262) (y := ReferenceIdeal.main_call18_v4) (a := ReferenceIdeal.main_v156) (b := ReferenceIdeal.main_call18_v3) rfl rfl (by decide +kernel) (by decide +kernel) (by decide +kernel)
  rw [eK, eR, h178 WK WR hP hLin hVal, h260 WK WR hP hLin hVal]
  try rfl
theorem h262 : StableHlo.after (KernelIdeal.Tail.ks0 (F := Ideal)) WK (Proc.devRef .tc KernelIdeal.main_call17_c_1) = StableHlo.after (ReferenceIdeal.Hand.tlOps0 (F := Ideal)) WR (Proc.devRef .tc ReferenceIdeal.main_call18_c_1) :=
  by
  have eK := final_nullary (KernelIdeal.Tail.writes_ks0 (F := Ideal)) WK 267 (rest := (KernelIdeal.Tail.ks0 (F := Ideal)).drop 268) (wrest := KernelIdeal.Tail.wr_ks0.drop 268) (y := KernelIdeal.main_call17_c_1) rfl rfl (by decide +kernel)
  have eR := final_nullary (ReferenceIdeal.Hand.writes_tlOps0 (F := Ideal)) WR 262 (rest := (ReferenceIdeal.Hand.tlOps0 (F := Ideal)).drop 263) (wrest := ReferenceIdeal.Hand.wr_tlOps0.drop 263) (y := ReferenceIdeal.main_call18_c_1) rfl rfl (by decide +kernel)
  rw [eK, eR]
  try rfl
theorem h263 : StableHlo.after (KernelIdeal.Tail.ks0 (F := Ideal)) WK (Proc.devRef .tc KernelIdeal.main_call17_v5) = StableHlo.after (ReferenceIdeal.Hand.tlOps0 (F := Ideal)) WR (Proc.devRef .tc ReferenceIdeal.main_call18_v5) :=
  by
  have eK := final_unary (KernelIdeal.Tail.writes_ks0 (F := Ideal)) WK 268 (rest := (KernelIdeal.Tail.ks0 (F := Ideal)).drop 269) (wrest := KernelIdeal.Tail.wr_ks0.drop 269) (y := KernelIdeal.main_call17_v5) (x := KernelIdeal.main_call17_c_1) rfl rfl (by decide +kernel) (by decide +kernel)
  have eR := final_unary (ReferenceIdeal.Hand.writes_tlOps0 (F := Ideal)) WR 263 (rest := (ReferenceIdeal.Hand.tlOps0 (F := Ideal)).drop 264) (wrest := ReferenceIdeal.Hand.wr_tlOps0.drop 264) (y := ReferenceIdeal.main_call18_v5) (x := ReferenceIdeal.main_call18_c_1) rfl rfl (by decide +kernel) (by decide +kernel)
  rw [eK, eR, h262 WK WR hP hLin hVal]
  try rfl
theorem h264 : StableHlo.after (KernelIdeal.Tail.ks0 (F := Ideal)) WK (Proc.devRef .tc KernelIdeal.main_call17_v6) = StableHlo.after (ReferenceIdeal.Hand.tlOps0 (F := Ideal)) WR (Proc.devRef .tc ReferenceIdeal.main_call18_v6) :=
  by
  have eK := final_binary (KernelIdeal.Tail.writes_ks0 (F := Ideal)) WK 269 (rest := (KernelIdeal.Tail.ks0 (F := Ideal)).drop 270) (wrest := KernelIdeal.Tail.wr_ks0.drop 270) (y := KernelIdeal.main_call17_v6) (a := KernelIdeal.main_call17_v4) (b := KernelIdeal.main_call17_v5) rfl rfl (by decide +kernel) (by decide +kernel) (by decide +kernel)
  have eR := final_binary (ReferenceIdeal.Hand.writes_tlOps0 (F := Ideal)) WR 264 (rest := (ReferenceIdeal.Hand.tlOps0 (F := Ideal)).drop 265) (wrest := ReferenceIdeal.Hand.wr_tlOps0.drop 265) (y := ReferenceIdeal.main_call18_v6) (a := ReferenceIdeal.main_call18_v4) (b := ReferenceIdeal.main_call18_v5) rfl rfl (by decide +kernel) (by decide +kernel) (by decide +kernel)
  rw [eK, eR, h261 WK WR hP hLin hVal, h263 WK WR hP hLin hVal]
  try rfl
theorem h265 : StableHlo.after (KernelIdeal.Tail.ks0 (F := Ideal)) WK (Proc.devRef .tc KernelIdeal.main_call17_c_2) = StableHlo.after (ReferenceIdeal.Hand.tlOps0 (F := Ideal)) WR (Proc.devRef .tc ReferenceIdeal.main_call18_c_2) :=
  by
  have eK := final_nullary (KernelIdeal.Tail.writes_ks0 (F := Ideal)) WK 270 (rest := (KernelIdeal.Tail.ks0 (F := Ideal)).drop 271) (wrest := KernelIdeal.Tail.wr_ks0.drop 271) (y := KernelIdeal.main_call17_c_2) rfl rfl (by decide +kernel)
  have eR := final_nullary (ReferenceIdeal.Hand.writes_tlOps0 (F := Ideal)) WR 265 (rest := (ReferenceIdeal.Hand.tlOps0 (F := Ideal)).drop 266) (wrest := ReferenceIdeal.Hand.wr_tlOps0.drop 266) (y := ReferenceIdeal.main_call18_c_2) rfl rfl (by decide +kernel)
  rw [eK, eR]
  try rfl
theorem h266 : StableHlo.after (KernelIdeal.Tail.ks0 (F := Ideal)) WK (Proc.devRef .tc KernelIdeal.main_call17_v7) = StableHlo.after (ReferenceIdeal.Hand.tlOps0 (F := Ideal)) WR (Proc.devRef .tc ReferenceIdeal.main_call18_v7) :=
  by
  have eK := final_unary (KernelIdeal.Tail.writes_ks0 (F := Ideal)) WK 271 (rest := (KernelIdeal.Tail.ks0 (F := Ideal)).drop 272) (wrest := KernelIdeal.Tail.wr_ks0.drop 272) (y := KernelIdeal.main_call17_v7) (x := KernelIdeal.main_call17_c_2) rfl rfl (by decide +kernel) (by decide +kernel)
  have eR := final_unary (ReferenceIdeal.Hand.writes_tlOps0 (F := Ideal)) WR 266 (rest := (ReferenceIdeal.Hand.tlOps0 (F := Ideal)).drop 267) (wrest := ReferenceIdeal.Hand.wr_tlOps0.drop 267) (y := ReferenceIdeal.main_call18_v7) (x := ReferenceIdeal.main_call18_c_2) rfl rfl (by decide +kernel) (by decide +kernel)
  rw [eK, eR, h265 WK WR hP hLin hVal]
  try rfl
theorem h267 : StableHlo.after (KernelIdeal.Tail.ks0 (F := Ideal)) WK (Proc.devRef .tc KernelIdeal.main_call17_v8) = StableHlo.after (ReferenceIdeal.Hand.tlOps0 (F := Ideal)) WR (Proc.devRef .tc ReferenceIdeal.main_call18_v8) :=
  by
  have eK := final_binary (KernelIdeal.Tail.writes_ks0 (F := Ideal)) WK 272 (rest := (KernelIdeal.Tail.ks0 (F := Ideal)).drop 273) (wrest := KernelIdeal.Tail.wr_ks0.drop 273) (y := KernelIdeal.main_call17_v8) (a := KernelIdeal.main_call17_v4) (b := KernelIdeal.main_call17_v7) rfl rfl (by decide +kernel) (by decide +kernel) (by decide +kernel)
  have eR := final_binary (ReferenceIdeal.Hand.writes_tlOps0 (F := Ideal)) WR 267 (rest := (ReferenceIdeal.Hand.tlOps0 (F := Ideal)).drop 268) (wrest := ReferenceIdeal.Hand.wr_tlOps0.drop 268) (y := ReferenceIdeal.main_call18_v8) (a := ReferenceIdeal.main_call18_v4) (b := ReferenceIdeal.main_call18_v7) rfl rfl (by decide +kernel) (by decide +kernel) (by decide +kernel)
  rw [eK, eR, h261 WK WR hP hLin hVal, h266 WK WR hP hLin hVal]
  try rfl
theorem h268 : StableHlo.after (KernelIdeal.Tail.ks0 (F := Ideal)) WK (Proc.devRef .tc KernelIdeal.main_call17_c_3) = StableHlo.after (ReferenceIdeal.Hand.tlOps0 (F := Ideal)) WR (Proc.devRef .tc ReferenceIdeal.main_call18_c_3) :=
  by
  have eK := final_nullary (KernelIdeal.Tail.writes_ks0 (F := Ideal)) WK 273 (rest := (KernelIdeal.Tail.ks0 (F := Ideal)).drop 274) (wrest := KernelIdeal.Tail.wr_ks0.drop 274) (y := KernelIdeal.main_call17_c_3) rfl rfl (by decide +kernel)
  have eR := final_nullary (ReferenceIdeal.Hand.writes_tlOps0 (F := Ideal)) WR 268 (rest := (ReferenceIdeal.Hand.tlOps0 (F := Ideal)).drop 269) (wrest := ReferenceIdeal.Hand.wr_tlOps0.drop 269) (y := ReferenceIdeal.main_call18_c_3) rfl rfl (by decide +kernel)
  rw [eK, eR]
  try rfl
theorem h269 : StableHlo.after (KernelIdeal.Tail.ks0 (F := Ideal)) WK (Proc.devRef .tc KernelIdeal.main_call17_v9) = StableHlo.after (ReferenceIdeal.Hand.tlOps0 (F := Ideal)) WR (Proc.devRef .tc ReferenceIdeal.main_call18_v9) :=
  by
  have eK := final_binary (KernelIdeal.Tail.writes_ks0 (F := Ideal)) WK 274 (rest := (KernelIdeal.Tail.ks0 (F := Ideal)).drop 275) (wrest := KernelIdeal.Tail.wr_ks0.drop 275) (y := KernelIdeal.main_call17_v9) (a := KernelIdeal.main_call17_call0.v0.ref) (b := KernelIdeal.main_call17_c_3) rfl rfl (by decide +kernel) (by decide +kernel) (by decide +kernel)
  have eR := final_binary (ReferenceIdeal.Hand.writes_tlOps0 (F := Ideal)) WR 269 (rest := (ReferenceIdeal.Hand.tlOps0 (F := Ideal)).drop 270) (wrest := ReferenceIdeal.Hand.wr_tlOps0.drop 270) (y := ReferenceIdeal.main_call18_v9) (a := ReferenceIdeal.main_call18_v2) (b := ReferenceIdeal.main_call18_c_3) rfl rfl (by decide +kernel) (by decide +kernel) (by decide +kernel)
  rw [eK, eR, h259 WK WR hP hLin hVal, h268 WK WR hP hLin hVal]
  try rfl
theorem h270 : StableHlo.after (KernelIdeal.Tail.ks0 (F := Ideal)) WK (Proc.devRef .tc KernelIdeal.main_call17_v10) = StableHlo.after (ReferenceIdeal.Hand.tlOps0 (F := Ideal)) WR (Proc.devRef .tc ReferenceIdeal.main_call18_v10) :=
  by
  have eK := final_unary (KernelIdeal.Tail.writes_ks0 (F := Ideal)) WK 275 (rest := (KernelIdeal.Tail.ks0 (F := Ideal)).drop 276) (wrest := KernelIdeal.Tail.wr_ks0.drop 276) (y := KernelIdeal.main_call17_v10) (x := KernelIdeal.main_call17_v9) rfl rfl (by decide +kernel) (by decide +kernel)
  have eR := final_unary (ReferenceIdeal.Hand.writes_tlOps0 (F := Ideal)) WR 270 (rest := (ReferenceIdeal.Hand.tlOps0 (F := Ideal)).drop 271) (wrest := ReferenceIdeal.Hand.wr_tlOps0.drop 271) (y := ReferenceIdeal.main_call18_v10) (x := ReferenceIdeal.main_call18_v9) rfl rfl (by decide +kernel) (by decide +kernel)
  rw [eK, eR, h269 WK WR hP hLin hVal]
  try rfl
theorem h271 : StableHlo.after (KernelIdeal.Tail.ks0 (F := Ideal)) WK (Proc.devRef .tc KernelIdeal.main_call17_v11) = StableHlo.after (ReferenceIdeal.Hand.tlOps0 (F := Ideal)) WR (Proc.devRef .tc ReferenceIdeal.main_call18_v11) :=
  by
  have eK := final_binary (KernelIdeal.Tail.writes_ks0 (F := Ideal)) WK 276 (rest := (KernelIdeal.Tail.ks0 (F := Ideal)).drop 277) (wrest := KernelIdeal.Tail.wr_ks0.drop 277) (y := KernelIdeal.main_call17_v11) (a := KernelIdeal.main_call17_v8) (b := KernelIdeal.main_call17_v10) rfl rfl (by decide +kernel) (by decide +kernel) (by decide +kernel)
  have eR := final_binary (ReferenceIdeal.Hand.writes_tlOps0 (F := Ideal)) WR 271 (rest := (ReferenceIdeal.Hand.tlOps0 (F := Ideal)).drop 272) (wrest := ReferenceIdeal.Hand.wr_tlOps0.drop 272) (y := ReferenceIdeal.main_call18_v11) (a := ReferenceIdeal.main_call18_v8) (b := ReferenceIdeal.main_call18_v10) rfl rfl (by decide +kernel) (by decide +kernel) (by decide +kernel)
  rw [eK, eR, h267 WK WR hP hLin hVal, h270 WK WR hP hLin hVal]
  try rfl
theorem h272 : StableHlo.after (KernelIdeal.Tail.ks0 (F := Ideal)) WK (Proc.devRef .tc KernelIdeal.main_call17_v12) = StableHlo.after (ReferenceIdeal.Hand.tlOps0 (F := Ideal)) WR (Proc.devRef .tc ReferenceIdeal.main_call18_v12) :=
  by
  have eK := final_binary (KernelIdeal.Tail.writes_ks0 (F := Ideal)) WK 277 (rest := (KernelIdeal.Tail.ks0 (F := Ideal)).drop 278) (wrest := KernelIdeal.Tail.wr_ks0.drop 278) (y := KernelIdeal.main_call17_v12) (a := KernelIdeal.main_call17_v11) (b := KernelIdeal.main_call17_v6) rfl rfl (by decide +kernel) (by decide +kernel) (by decide +kernel)
  have eR := final_binary (ReferenceIdeal.Hand.writes_tlOps0 (F := Ideal)) WR 272 (rest := (ReferenceIdeal.Hand.tlOps0 (F := Ideal)).drop 273) (wrest := ReferenceIdeal.Hand.wr_tlOps0.drop 273) (y := ReferenceIdeal.main_call18_v12) (a := ReferenceIdeal.main_call18_v11) (b := ReferenceIdeal.main_call18_v6) rfl rfl (by decide +kernel) (by decide +kernel) (by decide +kernel)
  rw [eK, eR, h271 WK WR hP hLin hVal, h264 WK WR hP hLin hVal]
  try rfl
theorem h273 : StableHlo.after (KernelIdeal.Tail.ks0 (F := Ideal)) WK (Proc.devRef .tc KernelIdeal.main_call17_v13) = StableHlo.after (ReferenceIdeal.Hand.tlOps0 (F := Ideal)) WR (Proc.devRef .tc ReferenceIdeal.main_call18_v13) :=
  by
  have eK := final_unary (KernelIdeal.Tail.writes_ks0 (F := Ideal)) WK 278 (rest := (KernelIdeal.Tail.ks0 (F := Ideal)).drop 279) (wrest := KernelIdeal.Tail.wr_ks0.drop 279) (y := KernelIdeal.main_call17_v13) (x := KernelIdeal.main_call17_call0.v0.ref) rfl rfl (by decide +kernel) (by decide +kernel)
  have eR := final_unary (ReferenceIdeal.Hand.writes_tlOps0 (F := Ideal)) WR 273 (rest := (ReferenceIdeal.Hand.tlOps0 (F := Ideal)).drop 274) (wrest := ReferenceIdeal.Hand.wr_tlOps0.drop 274) (y := ReferenceIdeal.main_call18_v13) (x := ReferenceIdeal.main_call18_v2) rfl rfl (by decide +kernel) (by decide +kernel)
  rw [eK, eR, h259 WK WR hP hLin hVal]
  try rfl
theorem h274 : StableHlo.after (KernelIdeal.Tail.ks0 (F := Ideal)) WK (Proc.devRef .tc KernelIdeal.main_call17_v14) = StableHlo.after (ReferenceIdeal.Hand.tlOps0 (F := Ideal)) WR (Proc.devRef .tc ReferenceIdeal.main_call18_v14) :=
  by
  have eK := final_binary (KernelIdeal.Tail.writes_ks0 (F := Ideal)) WK 279 (rest := (KernelIdeal.Tail.ks0 (F := Ideal)).drop 280) (wrest := KernelIdeal.Tail.wr_ks0.drop 280) (y := KernelIdeal.main_call17_v14) (a := KernelIdeal.main_call17_v4) (b := KernelIdeal.main_call17_v13) rfl rfl (by decide +kernel) (by decide +kernel) (by decide +kernel)
  have eR := final_binary (ReferenceIdeal.Hand.writes_tlOps0 (F := Ideal)) WR 274 (rest := (ReferenceIdeal.Hand.tlOps0 (F := Ideal)).drop 275) (wrest := ReferenceIdeal.Hand.wr_tlOps0.drop 275) (y := ReferenceIdeal.main_call18_v14) (a := ReferenceIdeal.main_call18_v4) (b := ReferenceIdeal.main_call18_v13) rfl rfl (by decide +kernel) (by decide +kernel) (by decide +kernel)
  rw [eK, eR, h261 WK WR hP hLin hVal, h273 WK WR hP hLin hVal]
  try rfl
theorem h275 : StableHlo.after (KernelIdeal.Tail.ks0 (F := Ideal)) WK (Proc.devRef .tc KernelIdeal.main_v194) = StableHlo.after (ReferenceIdeal.Hand.tlOps0 (F := Ideal)) WR (Proc.devRef .tc ReferenceIdeal.main_v168) :=
  by
  have eK := final_ternary (KernelIdeal.Tail.writes_ks0 (F := Ideal)) WK 280 (rest := (KernelIdeal.Tail.ks0 (F := Ideal)).drop 281) (wrest := KernelIdeal.Tail.wr_ks0.drop 281) (y := KernelIdeal.main_v194) (c := KernelIdeal.main_call17_v12) (a := KernelIdeal.main_call17_v14) (b := KernelIdeal.main_call17_v4) rfl rfl (by decide +kernel) (by decide +kernel) (by decide +kernel) (by decide +kernel)
  have eR := final_ternary (ReferenceIdeal.Hand.writes_tlOps0 (F := Ideal)) WR 275 (rest := (ReferenceIdeal.Hand.tlOps0 (F := Ideal)).drop 276) (wrest := ReferenceIdeal.Hand.wr_tlOps0.drop 276) (y := ReferenceIdeal.main_v168) (c := ReferenceIdeal.main_call18_v12) (a := ReferenceIdeal.main_call18_v14) (b := ReferenceIdeal.main_call18_v4) rfl rfl (by decide +kernel) (by decide +kernel) (by decide +kernel) (by decide +kernel)
  rw [eK, eR, h272 WK WR hP hLin hVal, h274 WK WR hP hLin hVal, h261 WK WR hP hLin hVal]
  try rfl
theorem h276 : StableHlo.after (KernelIdeal.Tail.ks0 (F := Ideal)) WK (Proc.devRef .tc KernelIdeal.main_c_84) = StableHlo.after (ReferenceIdeal.Hand.tlOps0 (F := Ideal)) WR (Proc.devRef .tc ReferenceIdeal.main_c_64) :=
  by
  have eK := final_nullary (KernelIdeal.Tail.writes_ks0 (F := Ideal)) WK 281 (rest := (KernelIdeal.Tail.ks0 (F := Ideal)).drop 282) (wrest := KernelIdeal.Tail.wr_ks0.drop 282) (y := KernelIdeal.main_c_84) rfl rfl (by decide +kernel)
  have eR := final_nullary (ReferenceIdeal.Hand.writes_tlOps0 (F := Ideal)) WR 276 (rest := (ReferenceIdeal.Hand.tlOps0 (F := Ideal)).drop 277) (wrest := ReferenceIdeal.Hand.wr_tlOps0.drop 277) (y := ReferenceIdeal.main_c_64) rfl rfl (by decide +kernel)
  rw [eK, eR]
  try rfl
theorem h277 : StableHlo.after (KernelIdeal.Tail.ks0 (F := Ideal)) WK (Proc.devRef .tc KernelIdeal.main_call18_v0) = StableHlo.after (ReferenceIdeal.Hand.tlOps0 (F := Ideal)) WR (Proc.devRef .tc ReferenceIdeal.main_call19_v0) :=
  by
  have eK := final_unary (KernelIdeal.Tail.writes_ks0 (F := Ideal)) WK 282 (rest := (KernelIdeal.Tail.ks0 (F := Ideal)).drop 283) (wrest := KernelIdeal.Tail.wr_ks0.drop 283) (y := KernelIdeal.main_call18_v0) (x := KernelIdeal.main_c_84) rfl rfl (by decide +kernel) (by decide +kernel)
  have eR := final_unary (ReferenceIdeal.Hand.writes_tlOps0 (F := Ideal)) WR 277 (rest := (ReferenceIdeal.Hand.tlOps0 (F := Ideal)).drop 278) (wrest := ReferenceIdeal.Hand.wr_tlOps0.drop 278) (y := ReferenceIdeal.main_call19_v0) (x := ReferenceIdeal.main_c_64) rfl rfl (by decide +kernel) (by decide +kernel)
  rw [eK, eR, h276 WK WR hP hLin hVal]
  try rfl
theorem h278 : StableHlo.after (KernelIdeal.Tail.ks0 (F := Ideal)) WK (Proc.devRef .tc KernelIdeal.main_call18_v1) = StableHlo.after (ReferenceIdeal.Hand.tlOps0 (F := Ideal)) WR (Proc.devRef .tc ReferenceIdeal.main_call19_v1) :=
  by
  have eK := final_unary (KernelIdeal.Tail.writes_ks0 (F := Ideal)) WK 283 (rest := (KernelIdeal.Tail.ks0 (F := Ideal)).drop 284) (wrest := KernelIdeal.Tail.wr_ks0.drop 284) (y := KernelIdeal.main_call18_v1) (x := KernelIdeal.main_call18_v0) rfl rfl (by decide +kernel) (by decide +kernel)
  have eR := final_unary (ReferenceIdeal.Hand.writes_tlOps0 (F := Ideal)) WR 278 (rest := (ReferenceIdeal.Hand.tlOps0 (F := Ideal)).drop 279) (wrest := ReferenceIdeal.Hand.wr_tlOps0.drop 279) (y := ReferenceIdeal.main_call19_v1) (x := ReferenceIdeal.main_call19_v0) rfl rfl (by decide +kernel) (by decide +kernel)
  rw [eK, eR, h277 WK WR hP hLin hVal]
  try rfl
theorem h279 : StableHlo.after (KernelIdeal.Tail.ks0 (F := Ideal)) WK (Proc.devRef .tc KernelIdeal.main_v195) = StableHlo.after (ReferenceIdeal.Hand.tlOps0 (F := Ideal)) WR (Proc.devRef .tc ReferenceIdeal.main_v169) :=
  by
  have eK := final_ternary (KernelIdeal.Tail.writes_ks0 (F := Ideal)) WK 284 (rest := (KernelIdeal.Tail.ks0 (F := Ideal)).drop 285) (wrest := KernelIdeal.Tail.wr_ks0.drop 285) (y := KernelIdeal.main_v195) (c := KernelIdeal.main_v193) (a := KernelIdeal.main_v194) (b := KernelIdeal.main_call18_v1) rfl rfl (by decide +kernel) (by decide +kernel) (by decide +kernel) (by decide +kernel)
  have eR := final_ternary (ReferenceIdeal.Hand.writes_tlOps0 (F := Ideal)) WR 279 (rest := (ReferenceIdeal.Hand.tlOps0 (F := Ideal)).drop 280) (wrest := ReferenceIdeal.Hand.wr_tlOps0.drop 280) (y := ReferenceIdeal.main_v169) (c := ReferenceIdeal.main_v167) (a := ReferenceIdeal.main_v168) (b := ReferenceIdeal.main_call19_v1) rfl rfl (by decide +kernel) (by decide +kernel) (by decide +kernel) (by decide +kernel)
  rw [eK, eR, h253 WK WR hP hLin hVal, h275 WK WR hP hLin hVal, h278 WK WR hP hLin hVal]
  try rfl
theorem h280 : StableHlo.after (KernelIdeal.Tail.ks0 (F := Ideal)) WK (Proc.devRef .tc KernelIdeal.main_v196) = StableHlo.after (ReferenceIdeal.Hand.tlOps0 (F := Ideal)) WR (Proc.devRef .tc ReferenceIdeal.main_v170) :=
  by
  have eK := final_unary (KernelIdeal.Tail.writes_ks0 (F := Ideal)) WK 285 (rest := (KernelIdeal.Tail.ks0 (F := Ideal)).drop 286) (wrest := KernelIdeal.Tail.wr_ks0.drop 286) (y := KernelIdeal.main_v196) (x := KernelIdeal.main_v186) rfl rfl (by decide +kernel) (by decide +kernel)
  have eR := final_unary (ReferenceIdeal.Hand.writes_tlOps0 (F := Ideal)) WR 280 (rest := (ReferenceIdeal.Hand.tlOps0 (F := Ideal)).drop 281) (wrest := ReferenceIdeal.Hand.wr_tlOps0.drop 281) (y := ReferenceIdeal.main_v170) (x := ReferenceIdeal.main_v160) rfl rfl (by decide +kernel) (by decide +kernel)
  rw [eK, eR, h203 WK WR hP hLin hVal]
  try rfl
theorem h281 : StableHlo.after (KernelIdeal.Tail.ks0 (F := Ideal)) WK (Proc.devRef .tc KernelIdeal.main_v197) = StableHlo.after (ReferenceIdeal.Hand.tlOps0 (F := Ideal)) WR (Proc.devRef .tc ReferenceIdeal.main_v171) :=
  by
  have eK := final_unary (KernelIdeal.Tail.writes_ks0 (F := Ideal)) WK 286 (rest := (KernelIdeal.Tail.ks0 (F := Ideal)).drop 287) (wrest := KernelIdeal.Tail.wr_ks0.drop 287) (y := KernelIdeal.main_v197) (x := KernelIdeal.main_v191) rfl rfl (by decide +kernel) (by decide +kernel)
  have eR := final_unary (ReferenceIdeal.Hand.writes_tlOps0 (F := Ideal)) WR 281 (rest := (ReferenceIdeal.Hand.tlOps0 (F := Ideal)).drop 282) (wrest := ReferenceIdeal.Hand.wr_tlOps0.drop 282) (y := ReferenceIdeal.main_v171) (x := ReferenceIdeal.main_v165) rfl rfl (by decide +kernel) (by decide +kernel)
  rw [eK, eR, h250 WK WR hP hLin hVal]
  try rfl
theorem h282 : StableHlo.after (KernelIdeal.Tail.ks0 (F := Ideal)) WK (Proc.devRef .tc KernelIdeal.main_v198) = StableHlo.after (ReferenceIdeal.Hand.tlOps0 (F := Ideal)) WR (Proc.devRef .tc ReferenceIdeal.main_v172) :=
  by
  have eK := final_unary (KernelIdeal.Tail.writes_ks0 (F := Ideal)) WK 287 (rest := (KernelIdeal.Tail.ks0 (F := Ideal)).drop 288) (wrest := KernelIdeal.Tail.wr_ks0.drop 288) (y := KernelIdeal.main_v198) (x := KernelIdeal.main_v195) rfl rfl (by decide +kernel) (by decide +kernel)
  have eR := final_unary (ReferenceIdeal.Hand.writes_tlOps0 (F := Ideal)) WR 282 (rest := (ReferenceIdeal.Hand.tlOps0 (F := Ideal)).drop 283) (wrest := ReferenceIdeal.Hand.wr_tlOps0.drop 283) (y := ReferenceIdeal.main_v172) (x := ReferenceIdeal.main_v169) rfl rfl (by decide +kernel) (by decide +kernel)
  rw [eK, eR, h279 WK WR hP hLin hVal]
  try rfl
theorem h283 : StableHlo.after (KernelIdeal.Tail.ks0 (F := Ideal)) WK (Proc.devRef .tc KernelIdeal.main_v199) = StableHlo.after (ReferenceIdeal.Hand.tlOps0 (F := Ideal)) WR (Proc.devRef .tc ReferenceIdeal.main_v173) := by
  refine (final_at (KernelIdeal.Tail.writes_ks0 (F := Ideal)) WK 288 (op := _) (rest := (KernelIdeal.Tail.ks0 (F := Ideal)).drop 289) (wrest := KernelIdeal.Tail.wr_ks0.drop 289) (y := KernelIdeal.main_v199) rfl rfl (by decide +kernel)).trans ?_
  refine Eq.symm ?_
  refine (final_at (ReferenceIdeal.Hand.writes_tlOps0 (F := Ideal)) WR 283 (op := _) (rest := (ReferenceIdeal.Hand.tlOps0 (F := Ideal)).drop 284) (wrest := ReferenceIdeal.Hand.wr_tlOps0.drop 284) (y := ReferenceIdeal.main_v173) rfl rfl (by decide +kernel)).trans ?_
  refine Eq.symm ?_
  refine (nary3_result _ _ _ _).trans ?_
  refine Eq.symm ?_
  refine (nary3_result _ _ _ _).trans ?_
  rw [stable (ReferenceIdeal.Hand.writes_tlOps0 (F := Ideal)) WR 283 ReferenceIdeal.main_v170 (by decide +kernel), stable (ReferenceIdeal.Hand.writes_tlOps0 (F := Ideal)) WR 283 ReferenceIdeal.main_v171 (by decide +kernel), stable (ReferenceIdeal.Hand.writes_tlOps0 (F := Ideal)) WR 283 ReferenceIdeal.main_v172 (by decide +kernel), stable (KernelIdeal.Tail.writes_ks0 (F := Ideal)) WK 288 KernelIdeal.main_v196 (by decide +kernel), stable (KernelIdeal.Tail.writes_ks0 (F := Ideal)) WK 288 KernelIdeal.main_v197 (by decide +kernel), stable (KernelIdeal.Tail.writes_ks0 (F := Ideal)) WK 288 KernelIdeal.main_v198 (by decide +kernel), h280 WK WR hP hLin hVal, h281 WK WR hP hLin hVal, h282 WK WR hP hLin hVal]
  rfl
theorem h284 : StableHlo.after (KernelIdeal.Tail.ks0 (F := Ideal)) WK (Proc.devRef .tc KernelIdeal.main_c_85) = StableHlo.after (ReferenceIdeal.Hand.tlOps0 (F := Ideal)) WR (Proc.devRef .tc ReferenceIdeal.main_c_65) :=
  by
  have eK := final_nullary (KernelIdeal.Tail.writes_ks0 (F := Ideal)) WK 289 (rest := (KernelIdeal.Tail.ks0 (F := Ideal)).drop 290) (wrest := KernelIdeal.Tail.wr_ks0.drop 290) (y := KernelIdeal.main_c_85) rfl rfl (by decide +kernel)
  have eR := final_nullary (ReferenceIdeal.Hand.writes_tlOps0 (F := Ideal)) WR 284 (rest := (ReferenceIdeal.Hand.tlOps0 (F := Ideal)).drop 285) (wrest := ReferenceIdeal.Hand.wr_tlOps0.drop 285) (y := ReferenceIdeal.main_c_65) rfl rfl (by decide +kernel)
  rw [eK, eR]
  try rfl
theorem h285 : StableHlo.after (KernelIdeal.Tail.ks0 (F := Ideal)) WK (Proc.devRef .tc KernelIdeal.main_v200) = StableHlo.after (ReferenceIdeal.Hand.tlOps0 (F := Ideal)) WR (Proc.devRef .tc ReferenceIdeal.main_v174) :=
  by
  have eK := final_unary (KernelIdeal.Tail.writes_ks0 (F := Ideal)) WK 290 (rest := (KernelIdeal.Tail.ks0 (F := Ideal)).drop 291) (wrest := KernelIdeal.Tail.wr_ks0.drop 291) (y := KernelIdeal.main_v200) (x := KernelIdeal.main_c_85) rfl rfl (by decide +kernel) (by decide +kernel)
  have eR := final_unary (ReferenceIdeal.Hand.writes_tlOps0 (F := Ideal)) WR 285 (rest := (ReferenceIdeal.Hand.tlOps0 (F := Ideal)).drop 286) (wrest := ReferenceIdeal.Hand.wr_tlOps0.drop 286) (y := ReferenceIdeal.main_v174) (x := ReferenceIdeal.main_c_65) rfl rfl (by decide +kernel) (by decide +kernel)
  rw [eK, eR, h284 WK WR hP hLin hVal]
  try rfl
theorem h286 : StableHlo.after (KernelIdeal.Tail.ks0 (F := Ideal)) WK (Proc.devRef .tc KernelIdeal.main_v201) = StableHlo.after (ReferenceIdeal.Hand.tlOps0 (F := Ideal)) WR (Proc.devRef .tc ReferenceIdeal.main_v175) :=
  by
  have eK := final_binary (KernelIdeal.Tail.writes_ks0 (F := Ideal)) WK 291 (rest := (KernelIdeal.Tail.ks0 (F := Ideal)).drop 292) (wrest := KernelIdeal.Tail.wr_ks0.drop 292) (y := KernelIdeal.main_v201) (a := KernelIdeal.main_v200) (b := KernelIdeal.main_v199) rfl rfl (by decide +kernel) (by decide +kernel) (by decide +kernel)
  have eR := final_binary (ReferenceIdeal.Hand.writes_tlOps0 (F := Ideal)) WR 286 (rest := (ReferenceIdeal.Hand.tlOps0 (F := Ideal)).drop 287) (wrest := ReferenceIdeal.Hand.wr_tlOps0.drop 287) (y := ReferenceIdeal.main_v175) (a := ReferenceIdeal.main_v174) (b := ReferenceIdeal.main_v173) rfl rfl (by decide +kernel) (by decide +kernel) (by decide +kernel)
  rw [eK, eR, h285 WK WR hP hLin hVal, h283 WK WR hP hLin hVal]
  try rfl

end Walk

end Cert.Bridge.Fast0

namespace Cert.Bridge
open Idealize.ShloMosaic Idealize.ShloMosaic.TcCoe Idealize.SL.Sem Idealize.ShloMosaic.StableHlo Cert.Lock

/-- Batch 0, by the walk in step: the three inputs agree at the end of the two lists (the points and the reference's
    cell ids and mask are inputs, never written; the kernel program's cell ids and mask are its five leading operations),
    and the three outputs are lines 144, 150, 286 of the walk. -/
theorem batch0' (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v13) = WR (Proc.devRef .tc Cert.ReferenceIdeal.main_v13))
    (hl : (fun i => shapeCast (Cert.KernelIdeal.main_v66 : Ref Cert.KernelIdeal.sig .tc).ty.shape
            (extractStridedSlice Cert.KernelIdeal.S1x300000 ![0, 0] (WK (Proc.devRef .tc Cert.KernelIdeal.main_v64)) Cert.KernelIdeal.Facts₀.slices_S4x300000_S1x300000_0_0)
            Cert.KernelIdeal.Facts₀.shapeCasts_S1x300000_S300000 i) = WR (Proc.devRef .tc Cert.ReferenceIdeal.main_v42))
    (hv : cmpi .ne (WR (Proc.devRef .tc Cert.ReferenceIdeal.main_v42)) (broadcastInDim Cert.KernelIdeal.S300000 ![] Cert.KernelIdeal.Facts₀.bcast_S_S300000 (constantI Cert.KernelIdeal.S_ 32 262144#32))
            = WR (Proc.devRef .tc Cert.ReferenceIdeal.main_v29)) :
    StableHlo.after (Cert.KernelIdeal.Tail.ks0 (F := Ideal)) WK (Proc.devRef .tc Cert.KernelIdeal.main_v160)
        = StableHlo.after (Cert.ReferenceIdeal.Hand.tlOps0 (F := Ideal)) WR (Proc.devRef .tc Cert.ReferenceIdeal.main_v134)
    ∧ StableHlo.after (Cert.KernelIdeal.Tail.ks0 (F := Ideal)) WK (Proc.devRef .tc Cert.KernelIdeal.main_v165)
        = StableHlo.after (Cert.ReferenceIdeal.Hand.tlOps0 (F := Ideal)) WR (Proc.devRef .tc Cert.ReferenceIdeal.main_v139)
    ∧ StableHlo.after (Cert.KernelIdeal.Tail.ks0 (F := Ideal)) WK (Proc.devRef .tc Cert.KernelIdeal.main_v201)
        = StableHlo.after (Cert.ReferenceIdeal.Hand.tlOps0 (F := Ideal)) WR (Proc.devRef .tc Cert.ReferenceIdeal.main_v175) := by
  have kP : StableHlo.after (KernelIdeal.Tail.ks0 (F := Ideal)) WK (Proc.devRef .tc KernelIdeal.main_v13) = WK (Proc.devRef .tc KernelIdeal.main_v13) := keep_key (KernelIdeal.Tail.writes_ks0 (F := Ideal)) WK _ (by decide +kernel)
  have k64 : StableHlo.after (KernelIdeal.Tail.ks0 (F := Ideal)) WK (Proc.devRef .tc KernelIdeal.main_v64) = WK (Proc.devRef .tc KernelIdeal.main_v64) := keep_key (KernelIdeal.Tail.writes_ks0 (F := Ideal)) WK _ (by decide +kernel)
  have rP : StableHlo.after (ReferenceIdeal.Hand.tlOps0 (F := Ideal)) WR (Proc.devRef .tc ReferenceIdeal.main_v13) = WR (Proc.devRef .tc ReferenceIdeal.main_v13) := keep_key (ReferenceIdeal.Hand.writes_tlOps0 (F := Ideal)) WR _ (by decide +kernel)
  have rL : StableHlo.after (ReferenceIdeal.Hand.tlOps0 (F := Ideal)) WR (Proc.devRef .tc ReferenceIdeal.main_v42) = WR (Proc.devRef .tc ReferenceIdeal.main_v42) := keep_key (ReferenceIdeal.Hand.writes_tlOps0 (F := Ideal)) WR _ (by decide +kernel)
  have rV : StableHlo.after (ReferenceIdeal.Hand.tlOps0 (F := Ideal)) WR (Proc.devRef .tc ReferenceIdeal.main_v29) = WR (Proc.devRef .tc ReferenceIdeal.main_v29) := keep_key (ReferenceIdeal.Hand.writes_tlOps0 (F := Ideal)) WR _ (by decide +kernel)
  have e65 := final_unary (KernelIdeal.Tail.writes_ks0 (F := Ideal)) WK 0 (rest := (KernelIdeal.Tail.ks0 (F := Ideal)).drop 1) (wrest := KernelIdeal.Tail.wr_ks0.drop 1) (y := KernelIdeal.main_v65) (x := KernelIdeal.main_v64) rfl rfl (by decide +kernel) (by decide +kernel)
  have e66 := final_reshape (KernelIdeal.Tail.writes_ks0 (F := Ideal)) WK 1 (rest := (KernelIdeal.Tail.ks0 (F := Ideal)).drop 2) (wrest := KernelIdeal.Tail.wr_ks0.drop 2) (y := KernelIdeal.main_v66) (x := KernelIdeal.main_v65) rfl rfl (by decide +kernel) (by decide +kernel)
  have ec := final_nullary (KernelIdeal.Tail.writes_ks0 (F := Ideal)) WK 2 (rest := (KernelIdeal.Tail.ks0 (F := Ideal)).drop 3) (wrest := KernelIdeal.Tail.wr_ks0.drop 3) (y := KernelIdeal.main_c_34) rfl rfl (by decide +kernel)
  have e67 := final_unary (KernelIdeal.Tail.writes_ks0 (F := Ideal)) WK 3 (rest := (KernelIdeal.Tail.ks0 (F := Ideal)).drop 4) (wrest := KernelIdeal.Tail.wr_ks0.drop 4) (y := KernelIdeal.main_v67) (x := KernelIdeal.main_c_34) rfl rfl (by decide +kernel) (by decide +kernel)
  have e68 := final_binary (KernelIdeal.Tail.writes_ks0 (F := Ideal)) WK 4 (rest := (KernelIdeal.Tail.ks0 (F := Ideal)).drop 5) (wrest := KernelIdeal.Tail.wr_ks0.drop 5) (y := KernelIdeal.main_v68) (a := KernelIdeal.main_v66) (b := KernelIdeal.main_v67) rfl rfl (by decide +kernel) (by decide +kernel) (by decide +kernel)
  have eP : StableHlo.after (KernelIdeal.Tail.ks0 (F := Ideal)) WK (Proc.devRef .tc KernelIdeal.main_v13) = StableHlo.after (ReferenceIdeal.Hand.tlOps0 (F := Ideal)) WR (Proc.devRef .tc ReferenceIdeal.main_v13) := kP.trans (hp.trans rP.symm)
  have eLin : StableHlo.after (KernelIdeal.Tail.ks0 (F := Ideal)) WK (Proc.devRef .tc KernelIdeal.main_v66) = StableHlo.after (ReferenceIdeal.Hand.tlOps0 (F := Ideal)) WR (Proc.devRef .tc ReferenceIdeal.main_v42) := by
    rw [e66, e65, k64, rL]; exact hl
  have eVal : StableHlo.after (KernelIdeal.Tail.ks0 (F := Ideal)) WK (Proc.devRef .tc KernelIdeal.main_v68) = StableHlo.after (ReferenceIdeal.Hand.tlOps0 (F := Ideal)) WR (Proc.devRef .tc ReferenceIdeal.main_v29) := by
    rw [e68, eLin, e67, ec, rL, rV]; exact hv
  exact ⟨Fast0.h144 WK WR eP eLin eVal, Fast0.h150 WK WR eP eLin eVal, Fast0.h286 WK WR eP eLin eVal⟩

end Cert.Bridge
end
-- ==== Proof.BridgeBatch0.lean ====
import proofs.«111982_j16939351015723_2_alg».proof.Proof.BatchFast0

/-! Batch 0 of four: the operations that follow the cell ids are the same on both sides. -/

set_option maxRecDepth 16384

noncomputable section
namespace Cert.Bridge
open Idealize.ShloMosaic Idealize.ShloMosaic.TcCoe Idealize.SL.Sem Idealize.ShloMosaic.StableHlo

/-- Batch 0: from equal points, cell ids and validity mask, the kernel program's operations after the cell ids and the
    reference's leave equal voxels, point counts and coordinates (they are the same operations in the same order). -/
theorem batch0 (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v13) = WR (Proc.devRef .tc Cert.ReferenceIdeal.main_v13))
    (hl : (fun i => shapeCast (Cert.KernelIdeal.main_v66 : Ref Cert.KernelIdeal.sig .tc).ty.shape
            (extractStridedSlice Cert.KernelIdeal.S1x300000 ![0, 0] (WK (Proc.devRef .tc Cert.KernelIdeal.main_v64)) Cert.KernelIdeal.Facts₀.slices_S4x300000_S1x300000_0_0)
            Cert.KernelIdeal.Facts₀.shapeCasts_S1x300000_S300000 i) = WR (Proc.devRef .tc Cert.ReferenceIdeal.main_v42))
    (hv : cmpi .ne (WR (Proc.devRef .tc Cert.ReferenceIdeal.main_v42)) (broadcastInDim Cert.KernelIdeal.S300000 ![] Cert.KernelIdeal.Facts₀.bcast_S_S300000 (constantI Cert.KernelIdeal.S_ 32 262144#32))
            = WR (Proc.devRef .tc Cert.ReferenceIdeal.main_v29)) :
    StableHlo.after (Cert.KernelIdeal.Tail.ks0 (F := Ideal)) WK (Proc.devRef .tc Cert.KernelIdeal.main_v160)
        = StableHlo.after (Cert.ReferenceIdeal.Hand.tlOps0 (F := Ideal)) WR (Proc.devRef .tc Cert.ReferenceIdeal.main_v134)
    ∧ StableHlo.after (Cert.KernelIdeal.Tail.ks0 (F := Ideal)) WK (Proc.devRef .tc Cert.KernelIdeal.main_v165)
        = StableHlo.after (Cert.ReferenceIdeal.Hand.tlOps0 (F := Ideal)) WR (Proc.devRef .tc Cert.ReferenceIdeal.main_v139)
    ∧ StableHlo.after (Cert.KernelIdeal.Tail.ks0 (F := Ideal)) WK (Proc.devRef .tc Cert.KernelIdeal.main_v201)
        = StableHlo.after (Cert.ReferenceIdeal.Hand.tlOps0 (F := Ideal)) WR (Proc.devRef .tc Cert.ReferenceIdeal.main_v175) := by
  exact batch0' WK WR hp hl hv

end Cert.Bridge
end
-- ==== Proof.BatchFast1.lean ====
/- TABLE: batch 1 of four, the two programs' operations after the cell ids walked in step, one line per pair of
   operations; then the batch's statement from the walk's three output lines. -/
import proofs.«111982_j16939351015723_2_alg».proof.Proof.KeepK
import proofs.«111982_j16939351015723_2_alg».proof.Proof.KeepR
import proofs.«111982_j16939351015723_2_alg».proof.Proof.LockCore
import Idealize.ShloMosaic.PureOps.Ideal

set_option maxRecDepth 16384

noncomputable section
namespace Cert.Bridge.Fast1
open Idealize.ShloMosaic Idealize.ShloMosaic.TcCoe Idealize.SL.Sem Idealize.ShloMosaic.StableHlo Cert.Lock

/-! Batch 1: the kernel program's operations after its cell ids and mask, and the reference's, are the same operations
in the same order. Walked in step: line `k` says that the `k`-th results agree at the end of the two lists, from the
agreement of its operands (earlier lines, or the three inputs: points, cell ids, mask). -/

section Walk
variable (WK : Valuation KernelIdeal.τ KernelIdeal.sig (Elt Ideal)) (WR : Valuation ReferenceIdeal.τ ReferenceIdeal.sig (Elt Ideal))
  (hP : StableHlo.after (KernelIdeal.Tail.ks1 (F := Ideal)) WK (Proc.devRef .tc KernelIdeal.main_v27) = StableHlo.after (ReferenceIdeal.Hand.tlOps1 (F := Ideal)) WR (Proc.devRef .tc ReferenceIdeal.main_v189))
  (hLin : StableHlo.after (KernelIdeal.Tail.ks1 (F := Ideal)) WK (Proc.devRef .tc KernelIdeal.main_v203) = StableHlo.after (ReferenceIdeal.Hand.tlOps1 (F := Ideal)) WR (Proc.devRef .tc ReferenceIdeal.main_v218))
  (hVal : StableHlo.after (KernelIdeal.Tail.ks1 (F := Ideal)) WK (Proc.devRef .tc KernelIdeal.main_v205) = StableHlo.after (ReferenceIdeal.Hand.tlOps1 (F := Ideal)) WR (Proc.devRef .tc ReferenceIdeal.main_v205))
include hP hLin hVal

-- the contents at the end of a list are compared as they stand, never computed
attribute [local irreducible] StableHlo.after

theorem h0 : StableHlo.after (KernelIdeal.Tail.ks1 (F := Ideal)) WK (Proc.devRef .tc KernelIdeal.main_v206) = StableHlo.after (ReferenceIdeal.Hand.tlOps1 (F := Ideal)) WR (Proc.devRef .tc ReferenceIdeal.main_v219) :=
  by
  have eK := final_nullary (KernelIdeal.Tail.writes_ks1 (F := Ideal)) WK 5 (rest := (KernelIdeal.Tail.ks1 (F := Ideal)).drop 6) (wrest := KernelIdeal.Tail.wr_ks1.drop 6) (y := KernelIdeal.main_v206) rfl rfl (by decide +kernel)
  have eR := final_nullary (ReferenceIdeal.Hand.writes_tlOps1 (F := Ideal)) WR 0 (rest := (ReferenceIdeal.Hand.tlOps1 (F := Ideal)).drop 1) (wrest := ReferenceIdeal.Hand.wr_tlOps1.drop 1) (y := ReferenceIdeal.main_v219) rfl rfl (by decide +kernel)
  rw [eK, eR]
  try rfl
theorem h1 : StableHlo.after (KernelIdeal.Tail.ks1 (F := Ideal)) WK (Proc.devRef .tc KernelIdeal.main_c_87) = StableHlo.after (ReferenceIdeal.Hand.tlOps1 (F := Ideal)) WR (Proc.devRef .tc ReferenceIdeal.main_c_80) :=
  by
  have eK := final_nullary (KernelIdeal.Tail.writes_ks1 (F := Ideal)) WK 6 (rest := (KernelIdeal.Tail.ks1 (F := Ideal)).drop 7) (wrest := KernelIdeal.Tail.wr_ks1.drop 7) (y := KernelIdeal.main_c_87) rfl rfl (by decide +kernel)
  have eR := final_nullary (ReferenceIdeal.Hand.writes_tlOps1 (F := Ideal)) WR 1 (rest := (ReferenceIdeal.Hand.tlOps1 (F := Ideal)).drop 2) (wrest := ReferenceIdeal.Hand.wr_tlOps1.drop 2) (y := ReferenceIdeal.main_c_80) rfl rfl (by decide +kernel)
  rw [eK, eR]
  try rfl
theorem h2 : StableHlo.after (KernelIdeal.Tail.ks1 (F := Ideal)) WK (Proc.devRef .tc KernelIdeal.main_v207) = StableHlo.after (ReferenceIdeal.Hand.tlOps1 (F := Ideal)) WR (Proc.devRef .tc ReferenceIdeal.main_v220) :=
  by
  have eK := final_unary (KernelIdeal.Tail.writes_ks1 (F := Ideal)) WK 7 (rest := (KernelIdeal.Tail.ks1 (F := Ideal)).drop 8) (wrest := KernelIdeal.Tail.wr_ks1.drop 8) (y := KernelIdeal.main_v207) (x := KernelIdeal.main_c_87) rfl rfl (by decide +kernel) (by decide +kernel)
  have eR := final_unary (ReferenceIdeal.Hand.writes_tlOps1 (F := Ideal)) WR 2 (rest := (ReferenceIdeal.Hand.tlOps1 (F := Ideal)).drop 3) (wrest := ReferenceIdeal.Hand.wr_tlOps1.drop 3) (y := ReferenceIdeal.main_v220) (x := ReferenceIdeal.main_c_80) rfl rfl (by decide +kernel) (by decide +kernel)
  rw [eK, eR, h1 WK WR hP hLin hVal]
  try rfl
theorem h3 : StableHlo.after (KernelIdeal.Tail.ks1 (F := Ideal)) WK (Proc.devRef .tc KernelIdeal.main_c_88) = StableHlo.after (ReferenceIdeal.Hand.tlOps1 (F := Ideal)) WR (Proc.devRef .tc ReferenceIdeal.main_c_81) :=
  by
  have eK := final_nullary (KernelIdeal.Tail.writes_ks1 (F := Ideal)) WK 8 (rest := (KernelIdeal.Tail.ks1 (F := Ideal)).drop 9) (wrest := KernelIdeal.Tail.wr_ks1.drop 9) (y := KernelIdeal.main_c_88) rfl rfl (by decide +kernel)
  have eR := final_nullary (ReferenceIdeal.Hand.writes_tlOps1 (F := Ideal)) WR 3 (rest := (ReferenceIdeal.Hand.tlOps1 (F := Ideal)).drop 4) (wrest := ReferenceIdeal.Hand.wr_tlOps1.drop 4) (y := ReferenceIdeal.main_c_81) rfl rfl (by decide +kernel)
  rw [eK, eR]
  try rfl
theorem h4 : StableHlo.after (KernelIdeal.Tail.ks1 (F := Ideal)) WK (Proc.devRef .tc KernelIdeal.main_v208) = StableHlo.after (ReferenceIdeal.Hand.tlOps1 (F := Ideal)) WR (Proc.devRef .tc ReferenceIdeal.main_v221) :=
  by
  have eK := final_unary (KernelIdeal.Tail.writes_ks1 (F := Ideal)) WK 9 (rest := (KernelIdeal.Tail.ks1 (F := Ideal)).drop 10) (wrest := KernelIdeal.Tail.wr_ks1.drop 10) (y := KernelIdeal.main_v208) (x := KernelIdeal.main_c_88) rfl rfl (by decide +kernel) (by decide +kernel)
  have eR := final_unary (ReferenceIdeal.Hand.writes_tlOps1 (F := Ideal)) WR 4 (rest := (ReferenceIdeal.Hand.tlOps1 (F := Ideal)).drop 5) (wrest := ReferenceIdeal.Hand.wr_tlOps1.drop 5) (y := ReferenceIdeal.main_v221) (x := ReferenceIdeal.main_c_81) rfl rfl (by decide +kernel) (by decide +kernel)
  rw [eK, eR, h3 WK WR hP hLin hVal]
  try rfl
theorem h5 : StableHlo.after (KernelIdeal.Tail.ks1 (F := Ideal)) WK (Proc.devRef .tc KernelIdeal.main_v209) = StableHlo.after (ReferenceIdeal.Hand.tlOps1 (F := Ideal)) WR (Proc.devRef .tc ReferenceIdeal.main_v222) :=
  by
  have eK := final_binary (KernelIdeal.Tail.writes_ks1 (F := Ideal)) WK 10 (rest := (KernelIdeal.Tail.ks1 (F := Ideal)).drop 11) (wrest := KernelIdeal.Tail.wr_ks1.drop 11) (y := KernelIdeal.main_v209) (a := KernelIdeal.main_v203) (b := KernelIdeal.main_v208) rfl rfl (by decide +kernel) (by decide +kernel) (by decide +kernel)
  have eR := final_binary (ReferenceIdeal.Hand.writes_tlOps1 (F := Ideal)) WR 5 (rest := (ReferenceIdeal.Hand.tlOps1 (F := Ideal)).drop 6) (wrest := ReferenceIdeal.Hand.wr_tlOps1.drop 6) (y := ReferenceIdeal.main_v222) (a := ReferenceIdeal.main_v218) (b := ReferenceIdeal.main_v221) rfl rfl (by decide +kernel) (by decide +kernel) (by decide +kernel)
  rw [eK, eR, hLin, h4 WK WR hP hLin hVal]
  try rfl
theorem h6 : StableHlo.after (KernelIdeal.Tail.ks1 (F := Ideal)) WK (Proc.devRef .tc KernelIdeal.main_c_89) = StableHlo.after (ReferenceIdeal.Hand.tlOps1 (F := Ideal)) WR (Proc.devRef .tc ReferenceIdeal.main_c_82) :=
  by
  have eK := final_nullary (KernelIdeal.Tail.writes_ks1 (F := Ideal)) WK 11 (rest := (KernelIdeal.Tail.ks1 (F := Ideal)).drop 12) (wrest := KernelIdeal.Tail.wr_ks1.drop 12) (y := KernelIdeal.main_c_89) rfl rfl (by decide +kernel)
  have eR := final_nullary (ReferenceIdeal.Hand.writes_tlOps1 (F := Ideal)) WR 6 (rest := (ReferenceIdeal.Hand.tlOps1 (F := Ideal)).drop 7) (wrest := ReferenceIdeal.Hand.wr_tlOps1.drop 7) (y := ReferenceIdeal.main_c_82) rfl rfl (by decide +kernel)
  rw [eK, eR]
  try rfl
theorem h7 : StableHlo.after (KernelIdeal.Tail.ks1 (F := Ideal)) WK (Proc.devRef .tc KernelIdeal.main_v210) = StableHlo.after (ReferenceIdeal.Hand.tlOps1 (F := Ideal)) WR (Proc.devRef .tc ReferenceIdeal.main_v223) :=
  by
  have eK := final_unary (KernelIdeal.Tail.writes_ks1 (F := Ideal)) WK 12 (rest := (KernelIdeal.Tail.ks1 (F := Ideal)).drop 13) (wrest := KernelIdeal.Tail.wr_ks1.drop 13) (y := KernelIdeal.main_v210) (x := KernelIdeal.main_c_89) rfl rfl (by decide +kernel) (by decide +kernel)
  have eR := final_unary (ReferenceIdeal.Hand.writes_tlOps1 (F := Ideal)) WR 7 (rest := (ReferenceIdeal.Hand.tlOps1 (F := Ideal)).drop 8) (wrest := ReferenceIdeal.Hand.wr_tlOps1.drop 8) (y := ReferenceIdeal.main_v223) (x := ReferenceIdeal.main_c_82) rfl rfl (by decide +kernel) (by decide +kernel)
  rw [eK, eR, h6 WK WR hP hLin hVal]
  try rfl
theorem h8 : StableHlo.after (KernelIdeal.Tail.ks1 (F := Ideal)) WK (Proc.devRef .tc KernelIdeal.main_v211) = StableHlo.after (ReferenceIdeal.Hand.tlOps1 (F := Ideal)) WR (Proc.devRef .tc ReferenceIdeal.main_v224) :=
  by
  have eK := final_binary (KernelIdeal.Tail.writes_ks1 (F := Ideal)) WK 13 (rest := (KernelIdeal.Tail.ks1 (F := Ideal)).drop 14) (wrest := KernelIdeal.Tail.wr_ks1.drop 14) (y := KernelIdeal.main_v211) (a := KernelIdeal.main_v203) (b := KernelIdeal.main_v210) rfl rfl (by decide +kernel) (by decide +kernel) (by decide +kernel)
  have eR := final_binary (ReferenceIdeal.Hand.writes_tlOps1 (F := Ideal)) WR 8 (rest := (ReferenceIdeal.Hand.tlOps1 (F := Ideal)).drop 9) (wrest := ReferenceIdeal.Hand.wr_tlOps1.drop 9) (y := ReferenceIdeal.main_v224) (a := ReferenceIdeal.main_v218) (b := ReferenceIdeal.main_v223) rfl rfl (by decide +kernel) (by decide +kernel) (by decide +kernel)
  rw [eK, eR, hLin, h7 WK WR hP hLin hVal]
  try rfl
theorem h9 : StableHlo.after (KernelIdeal.Tail.ks1 (F := Ideal)) WK (Proc.devRef .tc KernelIdeal.main_v212) = StableHlo.after (ReferenceIdeal.Hand.tlOps1 (F := Ideal)) WR (Proc.devRef .tc ReferenceIdeal.main_v225) :=
  by
  have eK := final_ternary (KernelIdeal.Tail.writes_ks1 (F := Ideal)) WK 14 (rest := (KernelIdeal.Tail.ks1 (F := Ideal)).drop 15) (wrest := KernelIdeal.Tail.wr_ks1.drop 15) (y := KernelIdeal.main_v212) (c := KernelIdeal.main_v209) (a := KernelIdeal.main_v211) (b := KernelIdeal.main_v203) rfl rfl (by decide +kernel) (by decide +kernel) (by decide +kernel) (by decide +kernel)
  have eR := final_ternary (ReferenceIdeal.Hand.writes_tlOps1 (F := Ideal)) WR 9 (rest := (ReferenceIdeal.Hand.tlOps1 (F := Ideal)).drop 10) (wrest := ReferenceIdeal.Hand.wr_tlOps1.drop 10) (y := ReferenceIdeal.main_v225) (c := ReferenceIdeal.main_v222) (a := ReferenceIdeal.main_v224) (b := ReferenceIdeal.main_v218) rfl rfl (by decide +kernel) (by decide +kernel) (by decide +kernel) (by decide +kernel)
  rw [eK, eR, h5 WK WR hP hLin hVal, h8 WK WR hP hLin hVal, hLin]
  try rfl
theorem h10 : StableHlo.after (KernelIdeal.Tail.ks1 (F := Ideal)) WK (Proc.devRef .tc KernelIdeal.main_v213) = StableHlo.after (ReferenceIdeal.Hand.tlOps1 (F := Ideal)) WR (Proc.devRef .tc ReferenceIdeal.main_v226) :=
  by
  have eK := final_unary (KernelIdeal.Tail.writes_ks1 (F := Ideal)) WK 15 (rest := (KernelIdeal.Tail.ks1 (F := Ideal)).drop 16) (wrest := KernelIdeal.Tail.wr_ks1.drop 16) (y := KernelIdeal.main_v213) (x := KernelIdeal.main_v212) rfl rfl (by decide +kernel) (by decide +kernel)
  have eR := final_unary (ReferenceIdeal.Hand.writes_tlOps1 (F := Ideal)) WR 10 (rest := (ReferenceIdeal.Hand.tlOps1 (F := Ideal)).drop 11) (wrest := ReferenceIdeal.Hand.wr_tlOps1.drop 11) (y := ReferenceIdeal.main_v226) (x := ReferenceIdeal.main_v225) rfl rfl (by decide +kernel) (by decide +kernel)
  rw [eK, eR, h9 WK WR hP hLin hVal]
  try rfl
theorem h11 : StableHlo.after (KernelIdeal.Tail.ks1 (F := Ideal)) WK (Proc.devRef .tc KernelIdeal.main_v214) = StableHlo.after (ReferenceIdeal.Hand.tlOps1 (F := Ideal)) WR (Proc.devRef .tc ReferenceIdeal.main_v227) :=
  by
  have eK := final_ternary (KernelIdeal.Tail.writes_ks1 (F := Ideal)) WK 16 (rest := (KernelIdeal.Tail.ks1 (F := Ideal)).drop 17) (wrest := KernelIdeal.Tail.wr_ks1.drop 17) (y := KernelIdeal.main_v214) (c := KernelIdeal.main_v207) (a := KernelIdeal.main_v213) (b := KernelIdeal.main_v206) rfl rfl (by decide +kernel) (by decide +kernel) (by decide +kernel) (by decide +kernel)
  have eR := final_ternary (ReferenceIdeal.Hand.writes_tlOps1 (F := Ideal)) WR 11 (rest := (ReferenceIdeal.Hand.tlOps1 (F := Ideal)).drop 12) (wrest := ReferenceIdeal.Hand.wr_tlOps1.drop 12) (y := ReferenceIdeal.main_v227) (c := ReferenceIdeal.main_v220) (a := ReferenceIdeal.main_v226) (b := ReferenceIdeal.main_v219) rfl rfl (by decide +kernel) (by decide +kernel) (by decide +kernel) (by decide +kernel)
  rw [eK, eR, h2 WK WR hP hLin hVal, h10 WK WR hP hLin hVal, h0 WK WR hP hLin hVal]
  try rfl
theorem h12 : StableHlo.after (KernelIdeal.Tail.ks1 (F := Ideal)) WK (Proc.devRef .tc KernelIdeal.main_c_90) = StableHlo.after (ReferenceIdeal.Hand.tlOps1 (F := Ideal)) WR (Proc.devRef .tc ReferenceIdeal.main_c_83) :=
  by
  have eK := final_nullary (KernelIdeal.Tail.writes_ks1 (F := Ideal)) WK 17 (rest := (KernelIdeal.Tail.ks1 (F := Ideal)).drop 18) (wrest := KernelIdeal.Tail.wr_ks1.drop 18) (y := KernelIdeal.main_c_90) rfl rfl (by decide +kernel)
  have eR := final_nullary (ReferenceIdeal.Hand.writes_tlOps1 (F := Ideal)) WR 12 (rest := (ReferenceIdeal.Hand.tlOps1 (F := Ideal)).drop 13) (wrest := ReferenceIdeal.Hand.wr_tlOps1.drop 13) (y := ReferenceIdeal.main_c_83) rfl rfl (by decide +kernel)
  rw [eK, eR]
  try rfl
theorem h13 : StableHlo.after (KernelIdeal.Tail.ks1 (F := Ideal)) WK (Proc.devRef .tc KernelIdeal.main_v215) = StableHlo.after (ReferenceIdeal.Hand.tlOps1 (F := Ideal)) WR (Proc.devRef .tc ReferenceIdeal.main_v228) :=
  by
  have eK := final_unary (KernelIdeal.Tail.writes_ks1 (F := Ideal)) WK 18 (rest := (KernelIdeal.Tail.ks1 (F := Ideal)).drop 19) (wrest := KernelIdeal.Tail.wr_ks1.drop 19) (y := KernelIdeal.main_v215) (x := KernelIdeal.main_c_90) rfl rfl (by decide +kernel) (by decide +kernel)
  have eR := final_unary (ReferenceIdeal.Hand.writes_tlOps1 (F := Ideal)) WR 13 (rest := (ReferenceIdeal.Hand.tlOps1 (F := Ideal)).drop 14) (wrest := ReferenceIdeal.Hand.wr_tlOps1.drop 14) (y := ReferenceIdeal.main_v228) (x := ReferenceIdeal.main_c_83) rfl rfl (by decide +kernel) (by decide +kernel)
  rw [eK, eR, h12 WK WR hP hLin hVal]
  try rfl
theorem h14 : StableHlo.after (KernelIdeal.Tail.ks1 (F := Ideal)) WK (Proc.devRef .tc KernelIdeal.main_v216) = StableHlo.after (ReferenceIdeal.Hand.tlOps1 (F := Ideal)) WR (Proc.devRef .tc ReferenceIdeal.main_v229) :=
  by
  have eK := final_binary (KernelIdeal.Tail.writes_ks1 (F := Ideal)) WK 19 (rest := (KernelIdeal.Tail.ks1 (F := Ideal)).drop 20) (wrest := KernelIdeal.Tail.wr_ks1.drop 20) (y := KernelIdeal.main_v216) (a := KernelIdeal.main_v203) (b := KernelIdeal.main_v215) rfl rfl (by decide +kernel) (by decide +kernel) (by decide +kernel)
  have eR := final_binary (ReferenceIdeal.Hand.writes_tlOps1 (F := Ideal)) WR 14 (rest := (ReferenceIdeal.Hand.tlOps1 (F := Ideal)).drop 15) (wrest := ReferenceIdeal.Hand.wr_tlOps1.drop 15) (y := ReferenceIdeal.main_v229) (a := ReferenceIdeal.main_v218) (b := ReferenceIdeal.main_v228) rfl rfl (by decide +kernel) (by decide +kernel) (by decide +kernel)
  rw [eK, eR, hLin, h13 WK WR hP hLin hVal]
  try rfl
theorem h15 : StableHlo.after (KernelIdeal.Tail.ks1 (F := Ideal)) WK (Proc.devRef .tc KernelIdeal.main_c_91) = StableHlo.after (ReferenceIdeal.Hand.tlOps1 (F := Ideal)) WR (Proc.devRef .tc ReferenceIdeal.main_c_84) :=
  by
  have eK := final_nullary (KernelIdeal.Tail.writes_ks1 (F := Ideal)) WK 20 (rest := (KernelIdeal.Tail.ks1 (F := Ideal)).drop 21) (wrest := KernelIdeal.Tail.wr_ks1.drop 21) (y := KernelIdeal.main_c_91) rfl rfl (by decide +kernel)
  have eR := final_nullary (ReferenceIdeal.Hand.writes_tlOps1 (F := Ideal)) WR 15 (rest := (ReferenceIdeal.Hand.tlOps1 (F := Ideal)).drop 16) (wrest := ReferenceIdeal.Hand.wr_tlOps1.drop 16) (y := ReferenceIdeal.main_c_84) rfl rfl (by decide +kernel)
  rw [eK, eR]
  try rfl
theorem h16 : StableHlo.after (KernelIdeal.Tail.ks1 (F := Ideal)) WK (Proc.devRef .tc KernelIdeal.main_v217) = StableHlo.after (ReferenceIdeal.Hand.tlOps1 (F := Ideal)) WR (Proc.devRef .tc ReferenceIdeal.main_v230) :=
  by
  have eK := final_unary (KernelIdeal.Tail.writes_ks1 (F := Ideal)) WK 21 (rest := (KernelIdeal.Tail.ks1 (F := Ideal)).drop 22) (wrest := KernelIdeal.Tail.wr_ks1.drop 22) (y := KernelIdeal.main_v217) (x := KernelIdeal.main_c_91) rfl rfl (by decide +kernel) (by decide +kernel)
  have eR := final_unary (ReferenceIdeal.Hand.writes_tlOps1 (F := Ideal)) WR 16 (rest := (ReferenceIdeal.Hand.tlOps1 (F := Ideal)).drop 17) (wrest := ReferenceIdeal.Hand.wr_tlOps1.drop 17) (y := ReferenceIdeal.main_v230) (x := ReferenceIdeal.main_c_84) rfl rfl (by decide +kernel) (by decide +kernel)
  rw [eK, eR, h15 WK WR hP hLin hVal]
  try rfl
theorem h17 : StableHlo.after (KernelIdeal.Tail.ks1 (F := Ideal)) WK (Proc.devRef .tc KernelIdeal.main_v218) = StableHlo.after (ReferenceIdeal.Hand.tlOps1 (F := Ideal)) WR (Proc.devRef .tc ReferenceIdeal.main_v231) :=
  by
  have eK := final_binary (KernelIdeal.Tail.writes_ks1 (F := Ideal)) WK 22 (rest := (KernelIdeal.Tail.ks1 (F := Ideal)).drop 23) (wrest := KernelIdeal.Tail.wr_ks1.drop 23) (y := KernelIdeal.main_v218) (a := KernelIdeal.main_v203) (b := KernelIdeal.main_v217) rfl rfl (by decide +kernel) (by decide +kernel) (by decide +kernel)
  have eR := final_binary (ReferenceIdeal.Hand.writes_tlOps1 (F := Ideal)) WR 17 (rest := (ReferenceIdeal.Hand.tlOps1 (F := Ideal)).drop 18) (wrest := ReferenceIdeal.Hand.wr_tlOps1.drop 18) (y := ReferenceIdeal.main_v231) (a := ReferenceIdeal.main_v218) (b := ReferenceIdeal.main_v230) rfl rfl (by decide +kernel) (by decide +kernel) (by decide +kernel)
  rw [eK, eR, hLin, h16 WK WR hP hLin hVal]
  try rfl
theorem h18 : StableHlo.after (KernelIdeal.Tail.ks1 (F := Ideal)) WK (Proc.devRef .tc KernelIdeal.main_v219) = StableHlo.after (ReferenceIdeal.Hand.tlOps1 (F := Ideal)) WR (Proc.devRef .tc ReferenceIdeal.main_v232) :=
  by
  have eK := final_ternary (KernelIdeal.Tail.writes_ks1 (F := Ideal)) WK 23 (rest := (KernelIdeal.Tail.ks1 (F := Ideal)).drop 24) (wrest := KernelIdeal.Tail.wr_ks1.drop 24) (y := KernelIdeal.main_v219) (c := KernelIdeal.main_v216) (a := KernelIdeal.main_v218) (b := KernelIdeal.main_v203) rfl rfl (by decide +kernel) (by decide +kernel) (by decide +kernel) (by decide +kernel)
  have eR := final_ternary (ReferenceIdeal.Hand.writes_tlOps1 (F := Ideal)) WR 18 (rest := (ReferenceIdeal.Hand.tlOps1 (F := Ideal)).drop 19) (wrest := ReferenceIdeal.Hand.wr_tlOps1.drop 19) (y := ReferenceIdeal.main_v232) (c := ReferenceIdeal.main_v229) (a := ReferenceIdeal.main_v231) (b := ReferenceIdeal.main_v218) rfl rfl (by decide +kernel) (by decide +kernel) (by decide +kernel) (by decide +kernel)
  rw [eK, eR, h14 WK WR hP hLin hVal, h17 WK WR hP hLin hVal, hLin]
  try rfl
theorem h19 : StableHlo.after (KernelIdeal.Tail.ks1 (F := Ideal)) WK (Proc.devRef .tc KernelIdeal.main_v220) = StableHlo.after (ReferenceIdeal.Hand.tlOps1 (F := Ideal)) WR (Proc.devRef .tc ReferenceIdeal.main_v233) :=
  by
  have eK := final_unary (KernelIdeal.Tail.writes_ks1 (F := Ideal)) WK 24 (rest := (KernelIdeal.Tail.ks1 (F := Ideal)).drop 25) (wrest := KernelIdeal.Tail.wr_ks1.drop 25) (y := KernelIdeal.main_v220) (x := KernelIdeal.main_v219) rfl rfl (by decide +kernel) (by decide +kernel)
  have eR := final_unary (ReferenceIdeal.Hand.writes_tlOps1 (F := Ideal)) WR 19 (rest := (ReferenceIdeal.Hand.tlOps1 (F := Ideal)).drop 20) (wrest := ReferenceIdeal.Hand.wr_tlOps1.drop 20) (y := ReferenceIdeal.main_v233) (x := ReferenceIdeal.main_v232) rfl rfl (by decide +kernel) (by decide +kernel)
  rw [eK, eR, h18 WK WR hP hLin hVal]
  try rfl
theorem h20 : StableHlo.after (KernelIdeal.Tail.ks1 (F := Ideal)) WK (Proc.devRef .tc KernelIdeal.main_v221) = StableHlo.after (ReferenceIdeal.Hand.tlOps1 (F := Ideal)) WR (Proc.devRef .tc ReferenceIdeal.main_v234) :=
  by
  have eK := final_binary (KernelIdeal.Tail.writes_ks1 (F := Ideal)) WK 25 (rest := (KernelIdeal.Tail.ks1 (F := Ideal)).drop 26) (wrest := KernelIdeal.Tail.wr_ks1.drop 26) (y := KernelIdeal.main_v221) (a := KernelIdeal.main_v214) (b := KernelIdeal.main_v220) rfl rfl (by decide +kernel) (by decide +kernel) (by decide +kernel)
  have eR := final_binary (ReferenceIdeal.Hand.writes_tlOps1 (F := Ideal)) WR 20 (rest := (ReferenceIdeal.Hand.tlOps1 (F := Ideal)).drop 21) (wrest := ReferenceIdeal.Hand.wr_tlOps1.drop 21) (y := ReferenceIdeal.main_v234) (a := ReferenceIdeal.main_v227) (b := ReferenceIdeal.main_v233) rfl rfl (by decide +kernel) (by decide +kernel) (by decide +kernel)
  rw [eK, eR, h11 WK WR hP hLin hVal, h19 WK WR hP hLin hVal]
  try rfl
theorem h21 : StableHlo.after (KernelIdeal.Tail.ks1 (F := Ideal)) WK (Proc.devRef .tc KernelIdeal.main_v222) = StableHlo.after (ReferenceIdeal.Hand.tlOps1 (F := Ideal)) WR (Proc.devRef .tc ReferenceIdeal.main_v235) :=
  by
  have eK := final_binary (KernelIdeal.Tail.writes_ks1 (F := Ideal)) WK 26 (rest := (KernelIdeal.Tail.ks1 (F := Ideal)).drop 27) (wrest := KernelIdeal.Tail.wr_ks1.drop 27) (y := KernelIdeal.main_v222) (a := KernelIdeal.main_v221) (b := KernelIdeal.main_v206) rfl rfl (by decide +kernel) (by decide +kernel) (by decide +kernel)
  have eR := final_binary (ReferenceIdeal.Hand.writes_tlOps1 (F := Ideal)) WR 21 (rest := (ReferenceIdeal.Hand.tlOps1 (F := Ideal)).drop 22) (wrest := ReferenceIdeal.Hand.wr_tlOps1.drop 22) (y := ReferenceIdeal.main_v235) (a := ReferenceIdeal.main_v234) (b := ReferenceIdeal.main_v219) rfl rfl (by decide +kernel) (by decide +kernel) (by decide +kernel)
  rw [eK, eR, h20 WK WR hP hLin hVal, h0 WK WR hP hLin hVal]
  try rfl
theorem h22 : StableHlo.after (KernelIdeal.Tail.ks1 (F := Ideal)) WK (Proc.devRef .tc KernelIdeal.main_v223) = StableHlo.after (ReferenceIdeal.Hand.tlOps1 (F := Ideal)) WR (Proc.devRef .tc ReferenceIdeal.main_v236) :=
  by
  have eK := final_binary (KernelIdeal.Tail.writes_ks1 (F := Ideal)) WK 27 (rest := (KernelIdeal.Tail.ks1 (F := Ideal)).drop 28) (wrest := KernelIdeal.Tail.wr_ks1.drop 28) (y := KernelIdeal.main_v223) (a := KernelIdeal.main_v205) (b := KernelIdeal.main_v222) rfl rfl (by decide +kernel) (by decide +kernel) (by decide +kernel)
  have eR := final_binary (ReferenceIdeal.Hand.writes_tlOps1 (F := Ideal)) WR 22 (rest := (ReferenceIdeal.Hand.tlOps1 (F := Ideal)).drop 23) (wrest := ReferenceIdeal.Hand.wr_tlOps1.drop 23) (y := ReferenceIdeal.main_v236) (a := ReferenceIdeal.main_v205) (b := ReferenceIdeal.main_v235) rfl rfl (by decide +kernel) (by decide +kernel) (by decide +kernel)
  rw [eK, eR, hVal, h21 WK WR hP hLin hVal]
  try rfl
theorem h23 : StableHlo.after (KernelIdeal.Tail.ks1 (F := Ideal)) WK (Proc.devRef .tc KernelIdeal.main_v224) = StableHlo.after (ReferenceIdeal.Hand.tlOps1 (F := Ideal)) WR (Proc.devRef .tc ReferenceIdeal.main_v237) :=
  by
  have eK := final_unary (KernelIdeal.Tail.writes_ks1 (F := Ideal)) WK 28 (rest := (KernelIdeal.Tail.ks1 (F := Ideal)).drop 29) (wrest := KernelIdeal.Tail.wr_ks1.drop 29) (y := KernelIdeal.main_v224) (x := KernelIdeal.main_v223) rfl rfl (by decide +kernel) (by decide +kernel)
  have eR := final_unary (ReferenceIdeal.Hand.writes_tlOps1 (F := Ideal)) WR 23 (rest := (ReferenceIdeal.Hand.tlOps1 (F := Ideal)).drop 24) (wrest := ReferenceIdeal.Hand.wr_tlOps1.drop 24) (y := ReferenceIdeal.main_v237) (x := ReferenceIdeal.main_v236) rfl rfl (by decide +kernel) (by decide +kernel)
  rw [eK, eR, h22 WK WR hP hLin hVal]
  try rfl
theorem h24 : StableHlo.after (KernelIdeal.Tail.ks1 (F := Ideal)) WK (Proc.devRef .tc KernelIdeal.main_call19_call0_c) = StableHlo.after (ReferenceIdeal.Hand.tlOps1 (F := Ideal)) WR (Proc.devRef .tc ReferenceIdeal.main_call21_call0_c) :=
  by
  have eK := final_nullary (KernelIdeal.Tail.writes_ks1 (F := Ideal)) WK 29 (rest := (KernelIdeal.Tail.ks1 (F := Ideal)).drop 30) (wrest := KernelIdeal.Tail.wr_ks1.drop 30) (y := KernelIdeal.main_call19_call0_c) rfl rfl (by decide +kernel)
  have eR := final_nullary (ReferenceIdeal.Hand.writes_tlOps1 (F := Ideal)) WR 24 (rest := (ReferenceIdeal.Hand.tlOps1 (F := Ideal)).drop 25) (wrest := ReferenceIdeal.Hand.wr_tlOps1.drop 25) (y := ReferenceIdeal.main_call21_call0_c) rfl rfl (by decide +kernel)
  rw [eK, eR]
  try rfl
theorem h25 : StableHlo.after (KernelIdeal.Tail.ks1 (F := Ideal)) WK (Proc.devRef .tc KernelIdeal.main_call19_call0_v0) = StableHlo.after (ReferenceIdeal.Hand.tlOps1 (F := Ideal)) WR (Proc.devRef .tc ReferenceIdeal.main_call21_call0_v0) :=
  by
  have eK := final_unary (KernelIdeal.Tail.writes_ks1 (F := Ideal)) WK 30 (rest := (KernelIdeal.Tail.ks1 (F := Ideal)).drop 31) (wrest := KernelIdeal.Tail.wr_ks1.drop 31) (y := KernelIdeal.main_call19_call0_v0) (x := KernelIdeal.main_call19_call0_c) rfl rfl (by decide +kernel) (by decide +kernel)
  have eR := final_unary (ReferenceIdeal.Hand.writes_tlOps1 (F := Ideal)) WR 25 (rest := (ReferenceIdeal.Hand.tlOps1 (F := Ideal)).drop 26) (wrest := ReferenceIdeal.Hand.wr_tlOps1.drop 26) (y := ReferenceIdeal.main_call21_call0_v0) (x := ReferenceIdeal.main_call21_call0_c) rfl rfl (by decide +kernel) (by decide +kernel)
  rw [eK, eR, h24 WK WR hP hLin hVal]
  try rfl
theorem h26 : StableHlo.after (KernelIdeal.Tail.ks1 (F := Ideal)) WK (Proc.devRef .tc KernelIdeal.main_v225) = StableHlo.after (ReferenceIdeal.Hand.tlOps1 (F := Ideal)) WR (Proc.devRef .tc ReferenceIdeal.main_v238) :=
  by
  have eK := final_binary (KernelIdeal.Tail.writes_ks1 (F := Ideal)) WK 31 (rest := (KernelIdeal.Tail.ks1 (F := Ideal)).drop 32) (wrest := KernelIdeal.Tail.wr_ks1.drop 32) (y := KernelIdeal.main_v225) (a := KernelIdeal.main_v224) (b := KernelIdeal.main_call19_call0_v0) rfl rfl (by decide +kernel) (by decide +kernel) (by decide +kernel)
  have eR := final_binary (ReferenceIdeal.Hand.writes_tlOps1 (F := Ideal)) WR 26 (rest := (ReferenceIdeal.Hand.tlOps1 (F := Ideal)).drop 27) (wrest := ReferenceIdeal.Hand.wr_tlOps1.drop 27) (y := ReferenceIdeal.main_v238) (a := ReferenceIdeal.main_v237) (b := ReferenceIdeal.main_call21_call0_v0) rfl rfl (by decide +kernel) (by decide +kernel) (by decide +kernel)
  rw [eK, eR, h23 WK WR hP hLin hVal, h25 WK WR hP hLin hVal]
  try rfl
theorem h27 : StableHlo.after (KernelIdeal.Tail.ks1 (F := Ideal)) WK (Proc.devRef .tc KernelIdeal.main_c_92) = StableHlo.after (ReferenceIdeal.Hand.tlOps1 (F := Ideal)) WR (Proc.devRef .tc ReferenceIdeal.main_c_85) :=
  by
  have eK := final_nullary (KernelIdeal.Tail.writes_ks1 (F := Ideal)) WK 32 (rest := (KernelIdeal.Tail.ks1 (F := Ideal)).drop 33) (wrest := KernelIdeal.Tail.wr_ks1.drop 33) (y := KernelIdeal.main_c_92) rfl rfl (by decide +kernel)
  have eR := final_nullary (ReferenceIdeal.Hand.writes_tlOps1 (F := Ideal)) WR 27 (rest := (ReferenceIdeal.Hand.tlOps1 (F := Ideal)).drop 28) (wrest := ReferenceIdeal.Hand.wr_tlOps1.drop 28) (y := ReferenceIdeal.main_c_85) rfl rfl (by decide +kernel)
  rw [eK, eR]
  try rfl
theorem h28 : StableHlo.after (KernelIdeal.Tail.ks1 (F := Ideal)) WK (Proc.devRef .tc KernelIdeal.main_v226) = StableHlo.after (ReferenceIdeal.Hand.tlOps1 (F := Ideal)) WR (Proc.devRef .tc ReferenceIdeal.main_v239) :=
  by
  have eK := final_unary (KernelIdeal.Tail.writes_ks1 (F := Ideal)) WK 33 (rest := (KernelIdeal.Tail.ks1 (F := Ideal)).drop 34) (wrest := KernelIdeal.Tail.wr_ks1.drop 34) (y := KernelIdeal.main_v226) (x := KernelIdeal.main_c_92) rfl rfl (by decide +kernel) (by decide +kernel)
  have eR := final_unary (ReferenceIdeal.Hand.writes_tlOps1 (F := Ideal)) WR 28 (rest := (ReferenceIdeal.Hand.tlOps1 (F := Ideal)).drop 29) (wrest := ReferenceIdeal.Hand.wr_tlOps1.drop 29) (y := ReferenceIdeal.main_v239) (x := ReferenceIdeal.main_c_85) rfl rfl (by decide +kernel) (by decide +kernel)
  rw [eK, eR, h27 WK WR hP hLin hVal]
  try rfl
theorem h29 : StableHlo.after (KernelIdeal.Tail.ks1 (F := Ideal)) WK (Proc.devRef .tc KernelIdeal.main_v227) = StableHlo.after (ReferenceIdeal.Hand.tlOps1 (F := Ideal)) WR (Proc.devRef .tc ReferenceIdeal.main_v240) :=
  by
  have eK := final_binary (KernelIdeal.Tail.writes_ks1 (F := Ideal)) WK 34 (rest := (KernelIdeal.Tail.ks1 (F := Ideal)).drop 35) (wrest := KernelIdeal.Tail.wr_ks1.drop 35) (y := KernelIdeal.main_v227) (a := KernelIdeal.main_v225) (b := KernelIdeal.main_v226) rfl rfl (by decide +kernel) (by decide +kernel) (by decide +kernel)
  have eR := final_binary (ReferenceIdeal.Hand.writes_tlOps1 (F := Ideal)) WR 29 (rest := (ReferenceIdeal.Hand.tlOps1 (F := Ideal)).drop 30) (wrest := ReferenceIdeal.Hand.wr_tlOps1.drop 30) (y := ReferenceIdeal.main_v240) (a := ReferenceIdeal.main_v238) (b := ReferenceIdeal.main_v239) rfl rfl (by decide +kernel) (by decide +kernel) (by decide +kernel)
  rw [eK, eR, h26 WK WR hP hLin hVal, h28 WK WR hP hLin hVal]
  try rfl
theorem h30 : StableHlo.after (KernelIdeal.Tail.ks1 (F := Ideal)) WK (Proc.devRef .tc KernelIdeal.main_c_93) = StableHlo.after (ReferenceIdeal.Hand.tlOps1 (F := Ideal)) WR (Proc.devRef .tc ReferenceIdeal.main_c_86) :=
  by
  have eK := final_nullary (KernelIdeal.Tail.writes_ks1 (F := Ideal)) WK 35 (rest := (KernelIdeal.Tail.ks1 (F := Ideal)).drop 36) (wrest := KernelIdeal.Tail.wr_ks1.drop 36) (y := KernelIdeal.main_c_93) rfl rfl (by decide +kernel)
  have eR := final_nullary (ReferenceIdeal.Hand.writes_tlOps1 (F := Ideal)) WR 30 (rest := (ReferenceIdeal.Hand.tlOps1 (F := Ideal)).drop 31) (wrest := ReferenceIdeal.Hand.wr_tlOps1.drop 31) (y := ReferenceIdeal.main_c_86) rfl rfl (by decide +kernel)
  rw [eK, eR]
  try rfl
theorem h31 : StableHlo.after (KernelIdeal.Tail.ks1 (F := Ideal)) WK (Proc.devRef .tc KernelIdeal.main_v228) = StableHlo.after (ReferenceIdeal.Hand.tlOps1 (F := Ideal)) WR (Proc.devRef .tc ReferenceIdeal.main_v241) :=
  by
  have eK := final_unary (KernelIdeal.Tail.writes_ks1 (F := Ideal)) WK 36 (rest := (KernelIdeal.Tail.ks1 (F := Ideal)).drop 37) (wrest := KernelIdeal.Tail.wr_ks1.drop 37) (y := KernelIdeal.main_v228) (x := KernelIdeal.main_c_93) rfl rfl (by decide +kernel) (by decide +kernel)
  have eR := final_unary (ReferenceIdeal.Hand.writes_tlOps1 (F := Ideal)) WR 31 (rest := (ReferenceIdeal.Hand.tlOps1 (F := Ideal)).drop 32) (wrest := ReferenceIdeal.Hand.wr_tlOps1.drop 32) (y := ReferenceIdeal.main_v241) (x := ReferenceIdeal.main_c_86) rfl rfl (by decide +kernel) (by decide +kernel)
  rw [eK, eR, h30 WK WR hP hLin hVal]
  try rfl
theorem h32 : StableHlo.after (KernelIdeal.Tail.ks1 (F := Ideal)) WK (Proc.devRef .tc KernelIdeal.main_c_94) = StableHlo.after (ReferenceIdeal.Hand.tlOps1 (F := Ideal)) WR (Proc.devRef .tc ReferenceIdeal.main_c_87) :=
  by
  have eK := final_nullary (KernelIdeal.Tail.writes_ks1 (F := Ideal)) WK 37 (rest := (KernelIdeal.Tail.ks1 (F := Ideal)).drop 38) (wrest := KernelIdeal.Tail.wr_ks1.drop 38) (y := KernelIdeal.main_c_94) rfl rfl (by decide +kernel)
  have eR := final_nullary (ReferenceIdeal.Hand.writes_tlOps1 (F := Ideal)) WR 32 (rest := (ReferenceIdeal.Hand.tlOps1 (F := Ideal)).drop 33) (wrest := ReferenceIdeal.Hand.wr_tlOps1.drop 33) (y := ReferenceIdeal.main_c_87) rfl rfl (by decide +kernel)
  rw [eK, eR]
  try rfl
theorem h33 : StableHlo.after (KernelIdeal.Tail.ks1 (F := Ideal)) WK (Proc.devRef .tc KernelIdeal.main_call20_v0) = StableHlo.after (ReferenceIdeal.Hand.tlOps1 (F := Ideal)) WR (Proc.devRef .tc ReferenceIdeal.main_call22_v0) :=
  by
  have eK := final_unary (KernelIdeal.Tail.writes_ks1 (F := Ideal)) WK 38 (rest := (KernelIdeal.Tail.ks1 (F := Ideal)).drop 39) (wrest := KernelIdeal.Tail.wr_ks1.drop 39) (y := KernelIdeal.main_call20_v0) (x := KernelIdeal.main_c_94) rfl rfl (by decide +kernel) (by decide +kernel)
  have eR := final_unary (ReferenceIdeal.Hand.writes_tlOps1 (F := Ideal)) WR 33 (rest := (ReferenceIdeal.Hand.tlOps1 (F := Ideal)).drop 34) (wrest := ReferenceIdeal.Hand.wr_tlOps1.drop 34) (y := ReferenceIdeal.main_call22_v0) (x := ReferenceIdeal.main_c_87) rfl rfl (by decide +kernel) (by decide +kernel)
  rw [eK, eR, h32 WK WR hP hLin hVal]
  try rfl
theorem h34 : StableHlo.after (KernelIdeal.Tail.ks1 (F := Ideal)) WK (Proc.devRef .tc KernelIdeal.main_call20_v1) = StableHlo.after (ReferenceIdeal.Hand.tlOps1 (F := Ideal)) WR (Proc.devRef .tc ReferenceIdeal.main_call22_v1) :=
  by
  have eK := final_unary (KernelIdeal.Tail.writes_ks1 (F := Ideal)) WK 39 (rest := (KernelIdeal.Tail.ks1 (F := Ideal)).drop 40) (wrest := KernelIdeal.Tail.wr_ks1.drop 40) (y := KernelIdeal.main_call20_v1) (x := KernelIdeal.main_call20_v0) rfl rfl (by decide +kernel) (by decide +kernel)
  have eR := final_unary (ReferenceIdeal.Hand.writes_tlOps1 (F := Ideal)) WR 34 (rest := (ReferenceIdeal.Hand.tlOps1 (F := Ideal)).drop 35) (wrest := ReferenceIdeal.Hand.wr_tlOps1.drop 35) (y := ReferenceIdeal.main_call22_v1) (x := ReferenceIdeal.main_call22_v0) rfl rfl (by decide +kernel) (by decide +kernel)
  rw [eK, eR, h33 WK WR hP hLin hVal]
  try rfl
theorem h35 : StableHlo.after (KernelIdeal.Tail.ks1 (F := Ideal)) WK (Proc.devRef .tc KernelIdeal.main_v229) = StableHlo.after (ReferenceIdeal.Hand.tlOps1 (F := Ideal)) WR (Proc.devRef .tc ReferenceIdeal.main_v242) :=
  by
  have eK := final_ternary (KernelIdeal.Tail.writes_ks1 (F := Ideal)) WK 40 (rest := (KernelIdeal.Tail.ks1 (F := Ideal)).drop 41) (wrest := KernelIdeal.Tail.wr_ks1.drop 41) (y := KernelIdeal.main_v229) (c := KernelIdeal.main_v223) (a := KernelIdeal.main_v203) (b := KernelIdeal.main_call20_v1) rfl rfl (by decide +kernel) (by decide +kernel) (by decide +kernel) (by decide +kernel)
  have eR := final_ternary (ReferenceIdeal.Hand.writes_tlOps1 (F := Ideal)) WR 35 (rest := (ReferenceIdeal.Hand.tlOps1 (F := Ideal)).drop 36) (wrest := ReferenceIdeal.Hand.wr_tlOps1.drop 36) (y := ReferenceIdeal.main_v242) (c := ReferenceIdeal.main_v236) (a := ReferenceIdeal.main_v218) (b := ReferenceIdeal.main_call22_v1) rfl rfl (by decide +kernel) (by decide +kernel) (by decide +kernel) (by decide +kernel)
  rw [eK, eR, h22 WK WR hP hLin hVal, hLin, h34 WK WR hP hLin hVal]
  try rfl
theorem h36 : StableHlo.after (KernelIdeal.Tail.ks1 (F := Ideal)) WK (Proc.devRef .tc KernelIdeal.main_c_95) = StableHlo.after (ReferenceIdeal.Hand.tlOps1 (F := Ideal)) WR (Proc.devRef .tc ReferenceIdeal.main_c_88) :=
  by
  have eK := final_nullary (KernelIdeal.Tail.writes_ks1 (F := Ideal)) WK 41 (rest := (KernelIdeal.Tail.ks1 (F := Ideal)).drop 42) (wrest := KernelIdeal.Tail.wr_ks1.drop 42) (y := KernelIdeal.main_c_95) rfl rfl (by decide +kernel)
  have eR := final_nullary (ReferenceIdeal.Hand.writes_tlOps1 (F := Ideal)) WR 36 (rest := (ReferenceIdeal.Hand.tlOps1 (F := Ideal)).drop 37) (wrest := ReferenceIdeal.Hand.wr_tlOps1.drop 37) (y := ReferenceIdeal.main_c_88) rfl rfl (by decide +kernel)
  rw [eK, eR]
  try rfl
theorem h37 : StableHlo.after (KernelIdeal.Tail.ks1 (F := Ideal)) WK (Proc.devRef .tc KernelIdeal.main_v230) = StableHlo.after (ReferenceIdeal.Hand.tlOps1 (F := Ideal)) WR (Proc.devRef .tc ReferenceIdeal.main_v243) :=
  by
  have eK := final_unary (KernelIdeal.Tail.writes_ks1 (F := Ideal)) WK 42 (rest := (KernelIdeal.Tail.ks1 (F := Ideal)).drop 43) (wrest := KernelIdeal.Tail.wr_ks1.drop 43) (y := KernelIdeal.main_v230) (x := KernelIdeal.main_c_95) rfl rfl (by decide +kernel) (by decide +kernel)
  have eR := final_unary (ReferenceIdeal.Hand.writes_tlOps1 (F := Ideal)) WR 37 (rest := (ReferenceIdeal.Hand.tlOps1 (F := Ideal)).drop 38) (wrest := ReferenceIdeal.Hand.wr_tlOps1.drop 38) (y := ReferenceIdeal.main_v243) (x := ReferenceIdeal.main_c_88) rfl rfl (by decide +kernel) (by decide +kernel)
  rw [eK, eR, h36 WK WR hP hLin hVal]
  try rfl
theorem h38 : StableHlo.after (KernelIdeal.Tail.ks1 (F := Ideal)) WK (Proc.devRef .tc KernelIdeal.main_v231) = StableHlo.after (ReferenceIdeal.Hand.tlOps1 (F := Ideal)) WR (Proc.devRef .tc ReferenceIdeal.main_v244) :=
  by
  have eK := final_binary (KernelIdeal.Tail.writes_ks1 (F := Ideal)) WK 43 (rest := (KernelIdeal.Tail.ks1 (F := Ideal)).drop 44) (wrest := KernelIdeal.Tail.wr_ks1.drop 44) (y := KernelIdeal.main_v231) (a := KernelIdeal.main_v227) (b := KernelIdeal.main_v230) rfl rfl (by decide +kernel) (by decide +kernel) (by decide +kernel)
  have eR := final_binary (ReferenceIdeal.Hand.writes_tlOps1 (F := Ideal)) WR 38 (rest := (ReferenceIdeal.Hand.tlOps1 (F := Ideal)).drop 39) (wrest := ReferenceIdeal.Hand.wr_tlOps1.drop 39) (y := ReferenceIdeal.main_v244) (a := ReferenceIdeal.main_v240) (b := ReferenceIdeal.main_v243) rfl rfl (by decide +kernel) (by decide +kernel) (by decide +kernel)
  rw [eK, eR, h29 WK WR hP hLin hVal, h37 WK WR hP hLin hVal]
  try rfl
theorem h39 : StableHlo.after (KernelIdeal.Tail.ks1 (F := Ideal)) WK (Proc.devRef .tc KernelIdeal.main_c_96) = StableHlo.after (ReferenceIdeal.Hand.tlOps1 (F := Ideal)) WR (Proc.devRef .tc ReferenceIdeal.main_c_89) :=
  by
  have eK := final_nullary (KernelIdeal.Tail.writes_ks1 (F := Ideal)) WK 44 (rest := (KernelIdeal.Tail.ks1 (F := Ideal)).drop 45) (wrest := KernelIdeal.Tail.wr_ks1.drop 45) (y := KernelIdeal.main_c_96) rfl rfl (by decide +kernel)
  have eR := final_nullary (ReferenceIdeal.Hand.writes_tlOps1 (F := Ideal)) WR 39 (rest := (ReferenceIdeal.Hand.tlOps1 (F := Ideal)).drop 40) (wrest := ReferenceIdeal.Hand.wr_tlOps1.drop 40) (y := ReferenceIdeal.main_c_89) rfl rfl (by decide +kernel)
  rw [eK, eR]
  try rfl
theorem h40 : StableHlo.after (KernelIdeal.Tail.ks1 (F := Ideal)) WK (Proc.devRef .tc KernelIdeal.main_call21_v0) = StableHlo.after (ReferenceIdeal.Hand.tlOps1 (F := Ideal)) WR (Proc.devRef .tc ReferenceIdeal.main_call23_v0) :=
  by
  have eK := final_unary (KernelIdeal.Tail.writes_ks1 (F := Ideal)) WK 45 (rest := (KernelIdeal.Tail.ks1 (F := Ideal)).drop 46) (wrest := KernelIdeal.Tail.wr_ks1.drop 46) (y := KernelIdeal.main_call21_v0) (x := KernelIdeal.main_c_96) rfl rfl (by decide +kernel) (by decide +kernel)
  have eR := final_unary (ReferenceIdeal.Hand.writes_tlOps1 (F := Ideal)) WR 40 (rest := (ReferenceIdeal.Hand.tlOps1 (F := Ideal)).drop 41) (wrest := ReferenceIdeal.Hand.wr_tlOps1.drop 41) (y := ReferenceIdeal.main_call23_v0) (x := ReferenceIdeal.main_c_89) rfl rfl (by decide +kernel) (by decide +kernel)
  rw [eK, eR, h39 WK WR hP hLin hVal]
  try rfl
theorem h41 : StableHlo.after (KernelIdeal.Tail.ks1 (F := Ideal)) WK (Proc.devRef .tc KernelIdeal.main_call21_v1) = StableHlo.after (ReferenceIdeal.Hand.tlOps1 (F := Ideal)) WR (Proc.devRef .tc ReferenceIdeal.main_call23_v1) :=
  by
  have eK := final_unary (KernelIdeal.Tail.writes_ks1 (F := Ideal)) WK 46 (rest := (KernelIdeal.Tail.ks1 (F := Ideal)).drop 47) (wrest := KernelIdeal.Tail.wr_ks1.drop 47) (y := KernelIdeal.main_call21_v1) (x := KernelIdeal.main_call21_v0) rfl rfl (by decide +kernel) (by decide +kernel)
  have eR := final_unary (ReferenceIdeal.Hand.writes_tlOps1 (F := Ideal)) WR 41 (rest := (ReferenceIdeal.Hand.tlOps1 (F := Ideal)).drop 42) (wrest := ReferenceIdeal.Hand.wr_tlOps1.drop 42) (y := ReferenceIdeal.main_call23_v1) (x := ReferenceIdeal.main_call23_v0) rfl rfl (by decide +kernel) (by decide +kernel)
  rw [eK, eR, h40 WK WR hP hLin hVal]
  try rfl
theorem h42 : StableHlo.after (KernelIdeal.Tail.ks1 (F := Ideal)) WK (Proc.devRef .tc KernelIdeal.main_v232) = StableHlo.after (ReferenceIdeal.Hand.tlOps1 (F := Ideal)) WR (Proc.devRef .tc ReferenceIdeal.main_v245) :=
  by
  have eK := final_ternary (KernelIdeal.Tail.writes_ks1 (F := Ideal)) WK 47 (rest := (KernelIdeal.Tail.ks1 (F := Ideal)).drop 48) (wrest := KernelIdeal.Tail.wr_ks1.drop 48) (y := KernelIdeal.main_v232) (c := KernelIdeal.main_v223) (a := KernelIdeal.main_v231) (b := KernelIdeal.main_call21_v1) rfl rfl (by decide +kernel) (by decide +kernel) (by decide +kernel) (by decide +kernel)
  have eR := final_ternary (ReferenceIdeal.Hand.writes_tlOps1 (F := Ideal)) WR 42 (rest := (ReferenceIdeal.Hand.tlOps1 (F := Ideal)).drop 43) (wrest := ReferenceIdeal.Hand.wr_tlOps1.drop 43) (y := ReferenceIdeal.main_v245) (c := ReferenceIdeal.main_v236) (a := ReferenceIdeal.main_v244) (b := ReferenceIdeal.main_call23_v1) rfl rfl (by decide +kernel) (by decide +kernel) (by decide +kernel) (by decide +kernel)
  rw [eK, eR, h22 WK WR hP hLin hVal, h38 WK WR hP hLin hVal, h41 WK WR hP hLin hVal]
  try rfl
theorem h43 : StableHlo.after (KernelIdeal.Tail.ks1 (F := Ideal)) WK (Proc.devRef .tc KernelIdeal.main_c_97) = StableHlo.after (ReferenceIdeal.Hand.tlOps1 (F := Ideal)) WR (Proc.devRef .tc ReferenceIdeal.main_c_90) :=
  by
  have eK := final_nullary (KernelIdeal.Tail.writes_ks1 (F := Ideal)) WK 48 (rest := (KernelIdeal.Tail.ks1 (F := Ideal)).drop 49) (wrest := KernelIdeal.Tail.wr_ks1.drop 49) (y := KernelIdeal.main_c_97) rfl rfl (by decide +kernel)
  have eR := final_nullary (ReferenceIdeal.Hand.writes_tlOps1 (F := Ideal)) WR 43 (rest := (ReferenceIdeal.Hand.tlOps1 (F := Ideal)).drop 44) (wrest := ReferenceIdeal.Hand.wr_tlOps1.drop 44) (y := ReferenceIdeal.main_c_90) rfl rfl (by decide +kernel)
  rw [eK, eR]
  try rfl
theorem h44 : StableHlo.after (KernelIdeal.Tail.ks1 (F := Ideal)) WK (Proc.devRef .tc KernelIdeal.main_v233) = StableHlo.after (ReferenceIdeal.Hand.tlOps1 (F := Ideal)) WR (Proc.devRef .tc ReferenceIdeal.main_v246) :=
  by
  have eK := final_unary (KernelIdeal.Tail.writes_ks1 (F := Ideal)) WK 49 (rest := (KernelIdeal.Tail.ks1 (F := Ideal)).drop 50) (wrest := KernelIdeal.Tail.wr_ks1.drop 50) (y := KernelIdeal.main_v233) (x := KernelIdeal.main_c_97) rfl rfl (by decide +kernel) (by decide +kernel)
  have eR := final_unary (ReferenceIdeal.Hand.writes_tlOps1 (F := Ideal)) WR 44 (rest := (ReferenceIdeal.Hand.tlOps1 (F := Ideal)).drop 45) (wrest := ReferenceIdeal.Hand.wr_tlOps1.drop 45) (y := ReferenceIdeal.main_v246) (x := ReferenceIdeal.main_c_90) rfl rfl (by decide +kernel) (by decide +kernel)
  rw [eK, eR, h43 WK WR hP hLin hVal]
  try rfl
theorem h45 : StableHlo.after (KernelIdeal.Tail.ks1 (F := Ideal)) WK (Proc.devRef .tc KernelIdeal.main_v234) = StableHlo.after (ReferenceIdeal.Hand.tlOps1 (F := Ideal)) WR (Proc.devRef .tc ReferenceIdeal.main_v247) :=
  by
  have eK := final_binary (KernelIdeal.Tail.writes_ks1 (F := Ideal)) WK 50 (rest := (KernelIdeal.Tail.ks1 (F := Ideal)).drop 51) (wrest := KernelIdeal.Tail.wr_ks1.drop 51) (y := KernelIdeal.main_v234) (a := KernelIdeal.main_v229) (b := KernelIdeal.main_v233) rfl rfl (by decide +kernel) (by decide +kernel) (by decide +kernel)
  have eR := final_binary (ReferenceIdeal.Hand.writes_tlOps1 (F := Ideal)) WR 45 (rest := (ReferenceIdeal.Hand.tlOps1 (F := Ideal)).drop 46) (wrest := ReferenceIdeal.Hand.wr_tlOps1.drop 46) (y := ReferenceIdeal.main_v247) (a := ReferenceIdeal.main_v242) (b := ReferenceIdeal.main_v246) rfl rfl (by decide +kernel) (by decide +kernel) (by decide +kernel)
  rw [eK, eR, h35 WK WR hP hLin hVal, h44 WK WR hP hLin hVal]
  try rfl
theorem h46 : StableHlo.after (KernelIdeal.Tail.ks1 (F := Ideal)) WK (Proc.devRef .tc KernelIdeal.main_c_98) = StableHlo.after (ReferenceIdeal.Hand.tlOps1 (F := Ideal)) WR (Proc.devRef .tc ReferenceIdeal.main_c_91) :=
  by
  have eK := final_nullary (KernelIdeal.Tail.writes_ks1 (F := Ideal)) WK 51 (rest := (KernelIdeal.Tail.ks1 (F := Ideal)).drop 52) (wrest := KernelIdeal.Tail.wr_ks1.drop 52) (y := KernelIdeal.main_c_98) rfl rfl (by decide +kernel)
  have eR := final_nullary (ReferenceIdeal.Hand.writes_tlOps1 (F := Ideal)) WR 46 (rest := (ReferenceIdeal.Hand.tlOps1 (F := Ideal)).drop 47) (wrest := ReferenceIdeal.Hand.wr_tlOps1.drop 47) (y := ReferenceIdeal.main_c_91) rfl rfl (by decide +kernel)
  rw [eK, eR]
  try rfl
theorem h47 : StableHlo.after (KernelIdeal.Tail.ks1 (F := Ideal)) WK (Proc.devRef .tc KernelIdeal.main_v235) = StableHlo.after (ReferenceIdeal.Hand.tlOps1 (F := Ideal)) WR (Proc.devRef .tc ReferenceIdeal.main_v248) :=
  by
  have eK := final_unary (KernelIdeal.Tail.writes_ks1 (F := Ideal)) WK 52 (rest := (KernelIdeal.Tail.ks1 (F := Ideal)).drop 53) (wrest := KernelIdeal.Tail.wr_ks1.drop 53) (y := KernelIdeal.main_v235) (x := KernelIdeal.main_c_98) rfl rfl (by decide +kernel) (by decide +kernel)
  have eR := final_unary (ReferenceIdeal.Hand.writes_tlOps1 (F := Ideal)) WR 47 (rest := (ReferenceIdeal.Hand.tlOps1 (F := Ideal)).drop 48) (wrest := ReferenceIdeal.Hand.wr_tlOps1.drop 48) (y := ReferenceIdeal.main_v248) (x := ReferenceIdeal.main_c_91) rfl rfl (by decide +kernel) (by decide +kernel)
  rw [eK, eR, h46 WK WR hP hLin hVal]
  try rfl
theorem h48 : StableHlo.after (KernelIdeal.Tail.ks1 (F := Ideal)) WK (Proc.devRef .tc KernelIdeal.main_v236) = StableHlo.after (ReferenceIdeal.Hand.tlOps1 (F := Ideal)) WR (Proc.devRef .tc ReferenceIdeal.main_v249) :=
  by
  have eK := final_binary (KernelIdeal.Tail.writes_ks1 (F := Ideal)) WK 53 (rest := (KernelIdeal.Tail.ks1 (F := Ideal)).drop 54) (wrest := KernelIdeal.Tail.wr_ks1.drop 54) (y := KernelIdeal.main_v236) (a := KernelIdeal.main_v229) (b := KernelIdeal.main_v235) rfl rfl (by decide +kernel) (by decide +kernel) (by decide +kernel)
  have eR := final_binary (ReferenceIdeal.Hand.writes_tlOps1 (F := Ideal)) WR 48 (rest := (ReferenceIdeal.Hand.tlOps1 (F := Ideal)).drop 49) (wrest := ReferenceIdeal.Hand.wr_tlOps1.drop 49) (y := ReferenceIdeal.main_v249) (a := ReferenceIdeal.main_v242) (b := ReferenceIdeal.main_v248) rfl rfl (by decide +kernel) (by decide +kernel) (by decide +kernel)
  rw [eK, eR, h35 WK WR hP hLin hVal, h47 WK WR hP hLin hVal]
  try rfl
theorem h49 : StableHlo.after (KernelIdeal.Tail.ks1 (F := Ideal)) WK (Proc.devRef .tc KernelIdeal.main_v237) = StableHlo.after (ReferenceIdeal.Hand.tlOps1 (F := Ideal)) WR (Proc.devRef .tc ReferenceIdeal.main_v250) :=
  by
  have eK := final_ternary (KernelIdeal.Tail.writes_ks1 (F := Ideal)) WK 54 (rest := (KernelIdeal.Tail.ks1 (F := Ideal)).drop 55) (wrest := KernelIdeal.Tail.wr_ks1.drop 55) (y := KernelIdeal.main_v237) (c := KernelIdeal.main_v234) (a := KernelIdeal.main_v236) (b := KernelIdeal.main_v229) rfl rfl (by decide +kernel) (by decide +kernel) (by decide +kernel) (by decide +kernel)
  have eR := final_ternary (ReferenceIdeal.Hand.writes_tlOps1 (F := Ideal)) WR 49 (rest := (ReferenceIdeal.Hand.tlOps1 (F := Ideal)).drop 50) (wrest := ReferenceIdeal.Hand.wr_tlOps1.drop 50) (y := ReferenceIdeal.main_v250) (c := ReferenceIdeal.main_v247) (a := ReferenceIdeal.main_v249) (b := ReferenceIdeal.main_v242) rfl rfl (by decide +kernel) (by decide +kernel) (by decide +kernel) (by decide +kernel)
  rw [eK, eR, h45 WK WR hP hLin hVal, h48 WK WR hP hLin hVal, h35 WK WR hP hLin hVal]
  try rfl
theorem h50 : StableHlo.after (KernelIdeal.Tail.ks1 (F := Ideal)) WK (Proc.devRef .tc KernelIdeal.main_v238) = StableHlo.after (ReferenceIdeal.Hand.tlOps1 (F := Ideal)) WR (Proc.devRef .tc ReferenceIdeal.main_v251) :=
  by
  have eK := final_unary (KernelIdeal.Tail.writes_ks1 (F := Ideal)) WK 55 (rest := (KernelIdeal.Tail.ks1 (F := Ideal)).drop 56) (wrest := KernelIdeal.Tail.wr_ks1.drop 56) (y := KernelIdeal.main_v238) (x := KernelIdeal.main_v237) rfl rfl (by decide +kernel) (by decide +kernel)
  have eR := final_unary (ReferenceIdeal.Hand.writes_tlOps1 (F := Ideal)) WR 50 (rest := (ReferenceIdeal.Hand.tlOps1 (F := Ideal)).drop 51) (wrest := ReferenceIdeal.Hand.wr_tlOps1.drop 51) (y := ReferenceIdeal.main_v251) (x := ReferenceIdeal.main_v250) rfl rfl (by decide +kernel) (by decide +kernel)
  rw [eK, eR, h49 WK WR hP hLin hVal]
  try rfl
theorem h51 : StableHlo.after (KernelIdeal.Tail.ks1 (F := Ideal)) WK (Proc.devRef .tc KernelIdeal.main_v239) = StableHlo.after (ReferenceIdeal.Hand.tlOps1 (F := Ideal)) WR (Proc.devRef .tc ReferenceIdeal.main_v252) :=
  by
  have eK := final_ternary (KernelIdeal.Tail.writes_ks1 (F := Ideal)) WK 56 (rest := (KernelIdeal.Tail.ks1 (F := Ideal)).drop 57) (wrest := KernelIdeal.Tail.wr_ks1.drop 57) (y := KernelIdeal.main_v239) (c := KernelIdeal.main_v228) (a := KernelIdeal.main_v238) (b := KernelIdeal.main_v232) rfl rfl (by decide +kernel) (by decide +kernel) (by decide +kernel) (by decide +kernel)
  have eR := final_ternary (ReferenceIdeal.Hand.writes_tlOps1 (F := Ideal)) WR 51 (rest := (ReferenceIdeal.Hand.tlOps1 (F := Ideal)).drop 52) (wrest := ReferenceIdeal.Hand.wr_tlOps1.drop 52) (y := ReferenceIdeal.main_v252) (c := ReferenceIdeal.main_v241) (a := ReferenceIdeal.main_v251) (b := ReferenceIdeal.main_v245) rfl rfl (by decide +kernel) (by decide +kernel) (by decide +kernel) (by decide +kernel)
  rw [eK, eR, h31 WK WR hP hLin hVal, h50 WK WR hP hLin hVal, h42 WK WR hP hLin hVal]
  try rfl
theorem h52 : StableHlo.after (KernelIdeal.Tail.ks1 (F := Ideal)) WK (Proc.devRef .tc KernelIdeal.main_c_99) = StableHlo.after (ReferenceIdeal.Hand.tlOps1 (F := Ideal)) WR (Proc.devRef .tc ReferenceIdeal.main_c_92) :=
  by
  have eK := final_nullary (KernelIdeal.Tail.writes_ks1 (F := Ideal)) WK 57 (rest := (KernelIdeal.Tail.ks1 (F := Ideal)).drop 58) (wrest := KernelIdeal.Tail.wr_ks1.drop 58) (y := KernelIdeal.main_c_99) rfl rfl (by decide +kernel)
  have eR := final_nullary (ReferenceIdeal.Hand.writes_tlOps1 (F := Ideal)) WR 52 (rest := (ReferenceIdeal.Hand.tlOps1 (F := Ideal)).drop 53) (wrest := ReferenceIdeal.Hand.wr_tlOps1.drop 53) (y := ReferenceIdeal.main_c_92) rfl rfl (by decide +kernel)
  rw [eK, eR]
  try rfl
theorem h53 : StableHlo.after (KernelIdeal.Tail.ks1 (F := Ideal)) WK (Proc.devRef .tc KernelIdeal.main_v240) = StableHlo.after (ReferenceIdeal.Hand.tlOps1 (F := Ideal)) WR (Proc.devRef .tc ReferenceIdeal.main_v253) :=
  by
  have eK := final_unary (KernelIdeal.Tail.writes_ks1 (F := Ideal)) WK 58 (rest := (KernelIdeal.Tail.ks1 (F := Ideal)).drop 59) (wrest := KernelIdeal.Tail.wr_ks1.drop 59) (y := KernelIdeal.main_v240) (x := KernelIdeal.main_c_99) rfl rfl (by decide +kernel) (by decide +kernel)
  have eR := final_unary (ReferenceIdeal.Hand.writes_tlOps1 (F := Ideal)) WR 53 (rest := (ReferenceIdeal.Hand.tlOps1 (F := Ideal)).drop 54) (wrest := ReferenceIdeal.Hand.wr_tlOps1.drop 54) (y := ReferenceIdeal.main_v253) (x := ReferenceIdeal.main_c_92) rfl rfl (by decide +kernel) (by decide +kernel)
  rw [eK, eR, h52 WK WR hP hLin hVal]
  try rfl
theorem h54 : StableHlo.after (KernelIdeal.Tail.ks1 (F := Ideal)) WK (Proc.devRef .tc KernelIdeal.main_v241) = StableHlo.after (ReferenceIdeal.Hand.tlOps1 (F := Ideal)) WR (Proc.devRef .tc ReferenceIdeal.main_v254) :=
  by
  have eK := final_binary (KernelIdeal.Tail.writes_ks1 (F := Ideal)) WK 59 (rest := (KernelIdeal.Tail.ks1 (F := Ideal)).drop 60) (wrest := KernelIdeal.Tail.wr_ks1.drop 60) (y := KernelIdeal.main_v241) (a := KernelIdeal.main_v203) (b := KernelIdeal.main_v240) rfl rfl (by decide +kernel) (by decide +kernel) (by decide +kernel)
  have eR := final_binary (ReferenceIdeal.Hand.writes_tlOps1 (F := Ideal)) WR 54 (rest := (ReferenceIdeal.Hand.tlOps1 (F := Ideal)).drop 55) (wrest := ReferenceIdeal.Hand.wr_tlOps1.drop 55) (y := ReferenceIdeal.main_v254) (a := ReferenceIdeal.main_v218) (b := ReferenceIdeal.main_v253) rfl rfl (by decide +kernel) (by decide +kernel) (by decide +kernel)
  rw [eK, eR, hLin, h53 WK WR hP hLin hVal]
  try rfl
theorem h55 : StableHlo.after (KernelIdeal.Tail.ks1 (F := Ideal)) WK (Proc.devRef .tc KernelIdeal.main_c_100) = StableHlo.after (ReferenceIdeal.Hand.tlOps1 (F := Ideal)) WR (Proc.devRef .tc ReferenceIdeal.main_c_93) :=
  by
  have eK := final_nullary (KernelIdeal.Tail.writes_ks1 (F := Ideal)) WK 60 (rest := (KernelIdeal.Tail.ks1 (F := Ideal)).drop 61) (wrest := KernelIdeal.Tail.wr_ks1.drop 61) (y := KernelIdeal.main_c_100) rfl rfl (by decide +kernel)
  have eR := final_nullary (ReferenceIdeal.Hand.writes_tlOps1 (F := Ideal)) WR 55 (rest := (ReferenceIdeal.Hand.tlOps1 (F := Ideal)).drop 56) (wrest := ReferenceIdeal.Hand.wr_tlOps1.drop 56) (y := ReferenceIdeal.main_c_93) rfl rfl (by decide +kernel)
  rw [eK, eR]
  try rfl
theorem h56 : StableHlo.after (KernelIdeal.Tail.ks1 (F := Ideal)) WK (Proc.devRef .tc KernelIdeal.main_v242) = StableHlo.after (ReferenceIdeal.Hand.tlOps1 (F := Ideal)) WR (Proc.devRef .tc ReferenceIdeal.main_v255) :=
  by
  have eK := final_unary (KernelIdeal.Tail.writes_ks1 (F := Ideal)) WK 61 (rest := (KernelIdeal.Tail.ks1 (F := Ideal)).drop 62) (wrest := KernelIdeal.Tail.wr_ks1.drop 62) (y := KernelIdeal.main_v242) (x := KernelIdeal.main_c_100) rfl rfl (by decide +kernel) (by decide +kernel)
  have eR := final_unary (ReferenceIdeal.Hand.writes_tlOps1 (F := Ideal)) WR 56 (rest := (ReferenceIdeal.Hand.tlOps1 (F := Ideal)).drop 57) (wrest := ReferenceIdeal.Hand.wr_tlOps1.drop 57) (y := ReferenceIdeal.main_v255) (x := ReferenceIdeal.main_c_93) rfl rfl (by decide +kernel) (by decide +kernel)
  rw [eK, eR, h55 WK WR hP hLin hVal]
  try rfl
theorem h57 : StableHlo.after (KernelIdeal.Tail.ks1 (F := Ideal)) WK (Proc.devRef .tc KernelIdeal.main_v243) = StableHlo.after (ReferenceIdeal.Hand.tlOps1 (F := Ideal)) WR (Proc.devRef .tc ReferenceIdeal.main_v256) :=
  by
  have eK := final_binary (KernelIdeal.Tail.writes_ks1 (F := Ideal)) WK 62 (rest := (KernelIdeal.Tail.ks1 (F := Ideal)).drop 63) (wrest := KernelIdeal.Tail.wr_ks1.drop 63) (y := KernelIdeal.main_v243) (a := KernelIdeal.main_v203) (b := KernelIdeal.main_v242) rfl rfl (by decide +kernel) (by decide +kernel) (by decide +kernel)
  have eR := final_binary (ReferenceIdeal.Hand.writes_tlOps1 (F := Ideal)) WR 57 (rest := (ReferenceIdeal.Hand.tlOps1 (F := Ideal)).drop 58) (wrest := ReferenceIdeal.Hand.wr_tlOps1.drop 58) (y := ReferenceIdeal.main_v256) (a := ReferenceIdeal.main_v218) (b := ReferenceIdeal.main_v255) rfl rfl (by decide +kernel) (by decide +kernel) (by decide +kernel)
  rw [eK, eR, hLin, h56 WK WR hP hLin hVal]
  try rfl
theorem h58 : StableHlo.after (KernelIdeal.Tail.ks1 (F := Ideal)) WK (Proc.devRef .tc KernelIdeal.main_v244) = StableHlo.after (ReferenceIdeal.Hand.tlOps1 (F := Ideal)) WR (Proc.devRef .tc ReferenceIdeal.main_v257) :=
  by
  have eK := final_ternary (KernelIdeal.Tail.writes_ks1 (F := Ideal)) WK 63 (rest := (KernelIdeal.Tail.ks1 (F := Ideal)).drop 64) (wrest := KernelIdeal.Tail.wr_ks1.drop 64) (y := KernelIdeal.main_v244) (c := KernelIdeal.main_v241) (a := KernelIdeal.main_v243) (b := KernelIdeal.main_v203) rfl rfl (by decide +kernel) (by decide +kernel) (by decide +kernel) (by decide +kernel)
  have eR := final_ternary (ReferenceIdeal.Hand.writes_tlOps1 (F := Ideal)) WR 58 (rest := (ReferenceIdeal.Hand.tlOps1 (F := Ideal)).drop 59) (wrest := ReferenceIdeal.Hand.wr_tlOps1.drop 59) (y := ReferenceIdeal.main_v257) (c := ReferenceIdeal.main_v254) (a := ReferenceIdeal.main_v256) (b := ReferenceIdeal.main_v218) rfl rfl (by decide +kernel) (by decide +kernel) (by decide +kernel) (by decide +kernel)
  rw [eK, eR, h54 WK WR hP hLin hVal, h57 WK WR hP hLin hVal, hLin]
  try rfl
theorem h59 : StableHlo.after (KernelIdeal.Tail.ks1 (F := Ideal)) WK (Proc.devRef .tc KernelIdeal.main_v245) = StableHlo.after (ReferenceIdeal.Hand.tlOps1 (F := Ideal)) WR (Proc.devRef .tc ReferenceIdeal.main_v258) :=
  by
  have eK := final_unary (KernelIdeal.Tail.writes_ks1 (F := Ideal)) WK 64 (rest := (KernelIdeal.Tail.ks1 (F := Ideal)).drop 65) (wrest := KernelIdeal.Tail.wr_ks1.drop 65) (y := KernelIdeal.main_v245) (x := KernelIdeal.main_v244) rfl rfl (by decide +kernel) (by decide +kernel)
  have eR := final_unary (ReferenceIdeal.Hand.writes_tlOps1 (F := Ideal)) WR 59 (rest := (ReferenceIdeal.Hand.tlOps1 (F := Ideal)).drop 60) (wrest := ReferenceIdeal.Hand.wr_tlOps1.drop 60) (y := ReferenceIdeal.main_v258) (x := ReferenceIdeal.main_v257) rfl rfl (by decide +kernel) (by decide +kernel)
  rw [eK, eR, h58 WK WR hP hLin hVal]
  try rfl
theorem h60 : StableHlo.after (KernelIdeal.Tail.ks1 (F := Ideal)) WK (Proc.devRef .tc KernelIdeal.main_v246) = StableHlo.after (ReferenceIdeal.Hand.tlOps1 (F := Ideal)) WR (Proc.devRef .tc ReferenceIdeal.main_v259) :=
  by
  have eK := final_binary (KernelIdeal.Tail.writes_ks1 (F := Ideal)) WK 65 (rest := (KernelIdeal.Tail.ks1 (F := Ideal)).drop 66) (wrest := KernelIdeal.Tail.wr_ks1.drop 66) (y := KernelIdeal.main_v246) (a := KernelIdeal.main_v239) (b := KernelIdeal.main_v245) rfl rfl (by decide +kernel) (by decide +kernel) (by decide +kernel)
  have eR := final_binary (ReferenceIdeal.Hand.writes_tlOps1 (F := Ideal)) WR 60 (rest := (ReferenceIdeal.Hand.tlOps1 (F := Ideal)).drop 61) (wrest := ReferenceIdeal.Hand.wr_tlOps1.drop 61) (y := ReferenceIdeal.main_v259) (a := ReferenceIdeal.main_v252) (b := ReferenceIdeal.main_v258) rfl rfl (by decide +kernel) (by decide +kernel) (by decide +kernel)
  rw [eK, eR, h51 WK WR hP hLin hVal, h59 WK WR hP hLin hVal]
  try rfl
theorem h61 : StableHlo.after (KernelIdeal.Tail.ks1 (F := Ideal)) WK (Proc.devRef .tc KernelIdeal.main_c_101) = StableHlo.after (ReferenceIdeal.Hand.tlOps1 (F := Ideal)) WR (Proc.devRef .tc ReferenceIdeal.main_c_94) :=
  by
  have eK := final_nullary (KernelIdeal.Tail.writes_ks1 (F := Ideal)) WK 66 (rest := (KernelIdeal.Tail.ks1 (F := Ideal)).drop 67) (wrest := KernelIdeal.Tail.wr_ks1.drop 67) (y := KernelIdeal.main_c_101) rfl rfl (by decide +kernel)
  have eR := final_nullary (ReferenceIdeal.Hand.writes_tlOps1 (F := Ideal)) WR 61 (rest := (ReferenceIdeal.Hand.tlOps1 (F := Ideal)).drop 62) (wrest := ReferenceIdeal.Hand.wr_tlOps1.drop 62) (y := ReferenceIdeal.main_c_94) rfl rfl (by decide +kernel)
  rw [eK, eR]
  try rfl
theorem h62 : StableHlo.after (KernelIdeal.Tail.ks1 (F := Ideal)) WK (Proc.devRef .tc KernelIdeal.main_call22_v0) = StableHlo.after (ReferenceIdeal.Hand.tlOps1 (F := Ideal)) WR (Proc.devRef .tc ReferenceIdeal.main_call24_v0) :=
  by
  have eK := final_unary (KernelIdeal.Tail.writes_ks1 (F := Ideal)) WK 67 (rest := (KernelIdeal.Tail.ks1 (F := Ideal)).drop 68) (wrest := KernelIdeal.Tail.wr_ks1.drop 68) (y := KernelIdeal.main_call22_v0) (x := KernelIdeal.main_c_101) rfl rfl (by decide +kernel) (by decide +kernel)
  have eR := final_unary (ReferenceIdeal.Hand.writes_tlOps1 (F := Ideal)) WR 62 (rest := (ReferenceIdeal.Hand.tlOps1 (F := Ideal)).drop 63) (wrest := ReferenceIdeal.Hand.wr_tlOps1.drop 63) (y := ReferenceIdeal.main_call24_v0) (x := ReferenceIdeal.main_c_94) rfl rfl (by decide +kernel) (by decide +kernel)
  rw [eK, eR, h61 WK WR hP hLin hVal]
  try rfl
theorem h63 : StableHlo.after (KernelIdeal.Tail.ks1 (F := Ideal)) WK (Proc.devRef .tc KernelIdeal.main_call22_v1) = StableHlo.after (ReferenceIdeal.Hand.tlOps1 (F := Ideal)) WR (Proc.devRef .tc ReferenceIdeal.main_call24_v1) :=
  by
  have eK := final_unary (KernelIdeal.Tail.writes_ks1 (F := Ideal)) WK 68 (rest := (KernelIdeal.Tail.ks1 (F := Ideal)).drop 69) (wrest := KernelIdeal.Tail.wr_ks1.drop 69) (y := KernelIdeal.main_call22_v1) (x := KernelIdeal.main_call22_v0) rfl rfl (by decide +kernel) (by decide +kernel)
  have eR := final_unary (ReferenceIdeal.Hand.writes_tlOps1 (F := Ideal)) WR 63 (rest := (ReferenceIdeal.Hand.tlOps1 (F := Ideal)).drop 64) (wrest := ReferenceIdeal.Hand.wr_tlOps1.drop 64) (y := ReferenceIdeal.main_call24_v1) (x := ReferenceIdeal.main_call24_v0) rfl rfl (by decide +kernel) (by decide +kernel)
  rw [eK, eR, h62 WK WR hP hLin hVal]
  try rfl
theorem h64 : StableHlo.after (KernelIdeal.Tail.ks1 (F := Ideal)) WK (Proc.devRef .tc KernelIdeal.main_v247) = StableHlo.after (ReferenceIdeal.Hand.tlOps1 (F := Ideal)) WR (Proc.devRef .tc ReferenceIdeal.main_v260) :=
  by
  have eK := final_ternary (KernelIdeal.Tail.writes_ks1 (F := Ideal)) WK 69 (rest := (KernelIdeal.Tail.ks1 (F := Ideal)).drop 70) (wrest := KernelIdeal.Tail.wr_ks1.drop 70) (y := KernelIdeal.main_v247) (c := KernelIdeal.main_v205) (a := KernelIdeal.main_v246) (b := KernelIdeal.main_call22_v1) rfl rfl (by decide +kernel) (by decide +kernel) (by decide +kernel) (by decide +kernel)
  have eR := final_ternary (ReferenceIdeal.Hand.writes_tlOps1 (F := Ideal)) WR 64 (rest := (ReferenceIdeal.Hand.tlOps1 (F := Ideal)).drop 65) (wrest := ReferenceIdeal.Hand.wr_tlOps1.drop 65) (y := ReferenceIdeal.main_v260) (c := ReferenceIdeal.main_v205) (a := ReferenceIdeal.main_v259) (b := ReferenceIdeal.main_call24_v1) rfl rfl (by decide +kernel) (by decide +kernel) (by decide +kernel) (by decide +kernel)
  rw [eK, eR, hVal, h60 WK WR hP hLin hVal, h63 WK WR hP hLin hVal]
  try rfl
theorem h65 : StableHlo.after (KernelIdeal.Tail.ks1 (F := Ideal)) WK (Proc.devRef .tc KernelIdeal.main_call23_v0) = StableHlo.after (ReferenceIdeal.Hand.tlOps1 (F := Ideal)) WR (Proc.devRef .tc ReferenceIdeal.main_call25_v0) :=
  by
  have eK := final_nullary (KernelIdeal.Tail.writes_ks1 (F := Ideal)) WK 70 (rest := (KernelIdeal.Tail.ks1 (F := Ideal)).drop 71) (wrest := KernelIdeal.Tail.wr_ks1.drop 71) (y := KernelIdeal.main_call23_v0) rfl rfl (by decide +kernel)
  have eR := final_nullary (ReferenceIdeal.Hand.writes_tlOps1 (F := Ideal)) WR 65 (rest := (ReferenceIdeal.Hand.tlOps1 (F := Ideal)).drop 66) (wrest := ReferenceIdeal.Hand.wr_tlOps1.drop 66) (y := ReferenceIdeal.main_call25_v0) rfl rfl (by decide +kernel)
  rw [eK, eR]
  try rfl
theorem h66 : StableHlo.after (KernelIdeal.Tail.ks1 (F := Ideal)) WK (Proc.devRef .tc KernelIdeal.main_call23_v1_0) = StableHlo.after (ReferenceIdeal.Hand.tlOps1 (F := Ideal)) WR (Proc.devRef .tc ReferenceIdeal.main_call25_v1_0) :=
  by
  have eK := final_binary (KernelIdeal.Tail.writes_ks1 (F := Ideal)) WK 71 (rest := (KernelIdeal.Tail.ks1 (F := Ideal)).drop 72) (wrest := KernelIdeal.Tail.wr_ks1.drop 72) (y := KernelIdeal.main_call23_v1_0) (a := KernelIdeal.main_v203) (b := KernelIdeal.main_call23_v0) rfl rfl (by decide +kernel) (by decide +kernel) (by decide +kernel)
  have eR := final_binary (ReferenceIdeal.Hand.writes_tlOps1 (F := Ideal)) WR 66 (rest := (ReferenceIdeal.Hand.tlOps1 (F := Ideal)).drop 67) (wrest := ReferenceIdeal.Hand.wr_tlOps1.drop 67) (y := ReferenceIdeal.main_call25_v1_0) (a := ReferenceIdeal.main_v218) (b := ReferenceIdeal.main_call25_v0) rfl rfl (by decide +kernel) (by decide +kernel) (by decide +kernel)
  rw [eK, eR, hLin, h65 WK WR hP hLin hVal]
  try rfl
theorem h67 : StableHlo.after (KernelIdeal.Tail.ks1 (F := Ideal)) WK (Proc.devRef .tc KernelIdeal.main_v248) = StableHlo.after (ReferenceIdeal.Hand.tlOps1 (F := Ideal)) WR (Proc.devRef .tc ReferenceIdeal.main_v261) :=
  by
  have eK := final_binary (KernelIdeal.Tail.writes_ks1 (F := Ideal)) WK 72 (rest := (KernelIdeal.Tail.ks1 (F := Ideal)).drop 73) (wrest := KernelIdeal.Tail.wr_ks1.drop 73) (y := KernelIdeal.main_v248) (a := KernelIdeal.main_v203) (b := KernelIdeal.main_call23_v0) rfl rfl (by decide +kernel) (by decide +kernel) (by decide +kernel)
  have eR := final_binary (ReferenceIdeal.Hand.writes_tlOps1 (F := Ideal)) WR 67 (rest := (ReferenceIdeal.Hand.tlOps1 (F := Ideal)).drop 68) (wrest := ReferenceIdeal.Hand.wr_tlOps1.drop 68) (y := ReferenceIdeal.main_v261) (a := ReferenceIdeal.main_v218) (b := ReferenceIdeal.main_call25_v0) rfl rfl (by decide +kernel) (by decide +kernel) (by decide +kernel)
  rw [eK, eR, hLin, h65 WK WR hP hLin hVal]
  try rfl
theorem h68 : StableHlo.after (KernelIdeal.Tail.ks1 (F := Ideal)) WK (Proc.devRef .tc KernelIdeal.main_c_102) = StableHlo.after (ReferenceIdeal.Hand.tlOps1 (F := Ideal)) WR (Proc.devRef .tc ReferenceIdeal.main_c_95) :=
  by
  have eK := final_nullary (KernelIdeal.Tail.writes_ks1 (F := Ideal)) WK 73 (rest := (KernelIdeal.Tail.ks1 (F := Ideal)).drop 74) (wrest := KernelIdeal.Tail.wr_ks1.drop 74) (y := KernelIdeal.main_c_102) rfl rfl (by decide +kernel)
  have eR := final_nullary (ReferenceIdeal.Hand.writes_tlOps1 (F := Ideal)) WR 68 (rest := (ReferenceIdeal.Hand.tlOps1 (F := Ideal)).drop 69) (wrest := ReferenceIdeal.Hand.wr_tlOps1.drop 69) (y := ReferenceIdeal.main_c_95) rfl rfl (by decide +kernel)
  rw [eK, eR]
  try rfl
theorem h69 : StableHlo.after (KernelIdeal.Tail.ks1 (F := Ideal)) WK (Proc.devRef .tc KernelIdeal.main_v249) = StableHlo.after (ReferenceIdeal.Hand.tlOps1 (F := Ideal)) WR (Proc.devRef .tc ReferenceIdeal.main_v262) :=
  by
  have eK := final_unary (KernelIdeal.Tail.writes_ks1 (F := Ideal)) WK 74 (rest := (KernelIdeal.Tail.ks1 (F := Ideal)).drop 75) (wrest := KernelIdeal.Tail.wr_ks1.drop 75) (y := KernelIdeal.main_v249) (x := KernelIdeal.main_c_102) rfl rfl (by decide +kernel) (by decide +kernel)
  have eR := final_unary (ReferenceIdeal.Hand.writes_tlOps1 (F := Ideal)) WR 69 (rest := (ReferenceIdeal.Hand.tlOps1 (F := Ideal)).drop 70) (wrest := ReferenceIdeal.Hand.wr_tlOps1.drop 70) (y := ReferenceIdeal.main_v262) (x := ReferenceIdeal.main_c_95) rfl rfl (by decide +kernel) (by decide +kernel)
  rw [eK, eR, h68 WK WR hP hLin hVal]
  try rfl
theorem h70 : StableHlo.after (KernelIdeal.Tail.ks1 (F := Ideal)) WK (Proc.devRef .tc KernelIdeal.main_v250) = StableHlo.after (ReferenceIdeal.Hand.tlOps1 (F := Ideal)) WR (Proc.devRef .tc ReferenceIdeal.main_v263) :=
  by
  have eK := final_binary (KernelIdeal.Tail.writes_ks1 (F := Ideal)) WK 75 (rest := (KernelIdeal.Tail.ks1 (F := Ideal)).drop 76) (wrest := KernelIdeal.Tail.wr_ks1.drop 76) (y := KernelIdeal.main_v250) (a := KernelIdeal.main_v248) (b := KernelIdeal.main_v249) rfl rfl (by decide +kernel) (by decide +kernel) (by decide +kernel)
  have eR := final_binary (ReferenceIdeal.Hand.writes_tlOps1 (F := Ideal)) WR 70 (rest := (ReferenceIdeal.Hand.tlOps1 (F := Ideal)).drop 71) (wrest := ReferenceIdeal.Hand.wr_tlOps1.drop 71) (y := ReferenceIdeal.main_v263) (a := ReferenceIdeal.main_v261) (b := ReferenceIdeal.main_v262) rfl rfl (by decide +kernel) (by decide +kernel) (by decide +kernel)
  rw [eK, eR, h67 WK WR hP hLin hVal, h69 WK WR hP hLin hVal]
  try rfl
theorem h71 : StableHlo.after (KernelIdeal.Tail.ks1 (F := Ideal)) WK (Proc.devRef .tc KernelIdeal.main_c_103) = StableHlo.after (ReferenceIdeal.Hand.tlOps1 (F := Ideal)) WR (Proc.devRef .tc ReferenceIdeal.main_c_96) :=
  by
  have eK := final_nullary (KernelIdeal.Tail.writes_ks1 (F := Ideal)) WK 76 (rest := (KernelIdeal.Tail.ks1 (F := Ideal)).drop 77) (wrest := KernelIdeal.Tail.wr_ks1.drop 77) (y := KernelIdeal.main_c_103) rfl rfl (by decide +kernel)
  have eR := final_nullary (ReferenceIdeal.Hand.writes_tlOps1 (F := Ideal)) WR 71 (rest := (ReferenceIdeal.Hand.tlOps1 (F := Ideal)).drop 72) (wrest := ReferenceIdeal.Hand.wr_tlOps1.drop 72) (y := ReferenceIdeal.main_c_96) rfl rfl (by decide +kernel)
  rw [eK, eR]
  try rfl
theorem h72 : StableHlo.after (KernelIdeal.Tail.ks1 (F := Ideal)) WK (Proc.devRef .tc KernelIdeal.main_v251) = StableHlo.after (ReferenceIdeal.Hand.tlOps1 (F := Ideal)) WR (Proc.devRef .tc ReferenceIdeal.main_v264) :=
  by
  have eK := final_unary (KernelIdeal.Tail.writes_ks1 (F := Ideal)) WK 77 (rest := (KernelIdeal.Tail.ks1 (F := Ideal)).drop 78) (wrest := KernelIdeal.Tail.wr_ks1.drop 78) (y := KernelIdeal.main_v251) (x := KernelIdeal.main_c_103) rfl rfl (by decide +kernel) (by decide +kernel)
  have eR := final_unary (ReferenceIdeal.Hand.writes_tlOps1 (F := Ideal)) WR 72 (rest := (ReferenceIdeal.Hand.tlOps1 (F := Ideal)).drop 73) (wrest := ReferenceIdeal.Hand.wr_tlOps1.drop 73) (y := ReferenceIdeal.main_v264) (x := ReferenceIdeal.main_c_96) rfl rfl (by decide +kernel) (by decide +kernel)
  rw [eK, eR, h71 WK WR hP hLin hVal]
  try rfl
theorem h73 : StableHlo.after (KernelIdeal.Tail.ks1 (F := Ideal)) WK (Proc.devRef .tc KernelIdeal.main_v252) = StableHlo.after (ReferenceIdeal.Hand.tlOps1 (F := Ideal)) WR (Proc.devRef .tc ReferenceIdeal.main_v265) :=
  by
  have eK := final_binary (KernelIdeal.Tail.writes_ks1 (F := Ideal)) WK 78 (rest := (KernelIdeal.Tail.ks1 (F := Ideal)).drop 79) (wrest := KernelIdeal.Tail.wr_ks1.drop 79) (y := KernelIdeal.main_v252) (a := KernelIdeal.main_v248) (b := KernelIdeal.main_v251) rfl rfl (by decide +kernel) (by decide +kernel) (by decide +kernel)
  have eR := final_binary (ReferenceIdeal.Hand.writes_tlOps1 (F := Ideal)) WR 73 (rest := (ReferenceIdeal.Hand.tlOps1 (F := Ideal)).drop 74) (wrest := ReferenceIdeal.Hand.wr_tlOps1.drop 74) (y := ReferenceIdeal.main_v265) (a := ReferenceIdeal.main_v261) (b := ReferenceIdeal.main_v264) rfl rfl (by decide +kernel) (by decide +kernel) (by decide +kernel)
  rw [eK, eR, h67 WK WR hP hLin hVal, h72 WK WR hP hLin hVal]
  try rfl
theorem h74 : StableHlo.after (KernelIdeal.Tail.ks1 (F := Ideal)) WK (Proc.devRef .tc KernelIdeal.main_v253) = StableHlo.after (ReferenceIdeal.Hand.tlOps1 (F := Ideal)) WR (Proc.devRef .tc ReferenceIdeal.main_v266) :=
  by
  have eK := final_ternary (KernelIdeal.Tail.writes_ks1 (F := Ideal)) WK 79 (rest := (KernelIdeal.Tail.ks1 (F := Ideal)).drop 80) (wrest := KernelIdeal.Tail.wr_ks1.drop 80) (y := KernelIdeal.main_v253) (c := KernelIdeal.main_v250) (a := KernelIdeal.main_v252) (b := KernelIdeal.main_v248) rfl rfl (by decide +kernel) (by decide +kernel) (by decide +kernel) (by decide +kernel)
  have eR := final_ternary (ReferenceIdeal.Hand.writes_tlOps1 (F := Ideal)) WR 74 (rest := (ReferenceIdeal.Hand.tlOps1 (F := Ideal)).drop 75) (wrest := ReferenceIdeal.Hand.wr_tlOps1.drop 75) (y := ReferenceIdeal.main_v266) (c := ReferenceIdeal.main_v263) (a := ReferenceIdeal.main_v265) (b := ReferenceIdeal.main_v261) rfl rfl (by decide +kernel) (by decide +kernel) (by decide +kernel) (by decide +kernel)
  rw [eK, eR, h70 WK WR hP hLin hVal, h73 WK WR hP hLin hVal, h67 WK WR hP hLin hVal]
  try rfl
theorem h75 : StableHlo.after (KernelIdeal.Tail.ks1 (F := Ideal)) WK (Proc.devRef .tc KernelIdeal.main_v254) = StableHlo.after (ReferenceIdeal.Hand.tlOps1 (F := Ideal)) WR (Proc.devRef .tc ReferenceIdeal.main_v267) :=
  by
  have eK := final_unary (KernelIdeal.Tail.writes_ks1 (F := Ideal)) WK 80 (rest := (KernelIdeal.Tail.ks1 (F := Ideal)).drop 81) (wrest := KernelIdeal.Tail.wr_ks1.drop 81) (y := KernelIdeal.main_v254) (x := KernelIdeal.main_v253) rfl rfl (by decide +kernel) (by decide +kernel)
  have eR := final_unary (ReferenceIdeal.Hand.writes_tlOps1 (F := Ideal)) WR 75 (rest := (ReferenceIdeal.Hand.tlOps1 (F := Ideal)).drop 76) (wrest := ReferenceIdeal.Hand.wr_tlOps1.drop 76) (y := ReferenceIdeal.main_v267) (x := ReferenceIdeal.main_v266) rfl rfl (by decide +kernel) (by decide +kernel)
  rw [eK, eR, h74 WK WR hP hLin hVal]
  try rfl
theorem h76 : StableHlo.after (KernelIdeal.Tail.ks1 (F := Ideal)) WK (Proc.devRef .tc KernelIdeal.main_v255) = StableHlo.after (ReferenceIdeal.Hand.tlOps1 (F := Ideal)) WR (Proc.devRef .tc ReferenceIdeal.main_v268) :=
  by
  have eK := final_binary (KernelIdeal.Tail.writes_ks1 (F := Ideal)) WK 81 (rest := (KernelIdeal.Tail.ks1 (F := Ideal)).drop 82) (wrest := KernelIdeal.Tail.wr_ks1.drop 82) (y := KernelIdeal.main_v255) (a := KernelIdeal.main_v203) (b := KernelIdeal.main_v254) rfl rfl (by decide +kernel) (by decide +kernel) (by decide +kernel)
  have eR := final_binary (ReferenceIdeal.Hand.writes_tlOps1 (F := Ideal)) WR 76 (rest := (ReferenceIdeal.Hand.tlOps1 (F := Ideal)).drop 77) (wrest := ReferenceIdeal.Hand.wr_tlOps1.drop 77) (y := ReferenceIdeal.main_v268) (a := ReferenceIdeal.main_v218) (b := ReferenceIdeal.main_v267) rfl rfl (by decide +kernel) (by decide +kernel) (by decide +kernel)
  rw [eK, eR, hLin, h75 WK WR hP hLin hVal]
  try rfl
theorem h77 : StableHlo.after (KernelIdeal.Tail.ks1 (F := Ideal)) WK (Proc.devRef .tc KernelIdeal.main_c_104) = StableHlo.after (ReferenceIdeal.Hand.tlOps1 (F := Ideal)) WR (Proc.devRef .tc ReferenceIdeal.main_c_97) :=
  by
  have eK := final_nullary (KernelIdeal.Tail.writes_ks1 (F := Ideal)) WK 82 (rest := (KernelIdeal.Tail.ks1 (F := Ideal)).drop 83) (wrest := KernelIdeal.Tail.wr_ks1.drop 83) (y := KernelIdeal.main_c_104) rfl rfl (by decide +kernel)
  have eR := final_nullary (ReferenceIdeal.Hand.writes_tlOps1 (F := Ideal)) WR 77 (rest := (ReferenceIdeal.Hand.tlOps1 (F := Ideal)).drop 78) (wrest := ReferenceIdeal.Hand.wr_tlOps1.drop 78) (y := ReferenceIdeal.main_c_97) rfl rfl (by decide +kernel)
  rw [eK, eR]
  try rfl
theorem h78 : StableHlo.after (KernelIdeal.Tail.ks1 (F := Ideal)) WK (Proc.devRef .tc KernelIdeal.main_v256) = StableHlo.after (ReferenceIdeal.Hand.tlOps1 (F := Ideal)) WR (Proc.devRef .tc ReferenceIdeal.main_v269) :=
  by
  have eK := final_unary (KernelIdeal.Tail.writes_ks1 (F := Ideal)) WK 83 (rest := (KernelIdeal.Tail.ks1 (F := Ideal)).drop 84) (wrest := KernelIdeal.Tail.wr_ks1.drop 84) (y := KernelIdeal.main_v256) (x := KernelIdeal.main_c_104) rfl rfl (by decide +kernel) (by decide +kernel)
  have eR := final_unary (ReferenceIdeal.Hand.writes_tlOps1 (F := Ideal)) WR 78 (rest := (ReferenceIdeal.Hand.tlOps1 (F := Ideal)).drop 79) (wrest := ReferenceIdeal.Hand.wr_tlOps1.drop 79) (y := ReferenceIdeal.main_v269) (x := ReferenceIdeal.main_c_97) rfl rfl (by decide +kernel) (by decide +kernel)
  rw [eK, eR, h77 WK WR hP hLin hVal]
  try rfl
theorem h79 : StableHlo.after (KernelIdeal.Tail.ks1 (F := Ideal)) WK (Proc.devRef .tc KernelIdeal.main_v257) = StableHlo.after (ReferenceIdeal.Hand.tlOps1 (F := Ideal)) WR (Proc.devRef .tc ReferenceIdeal.main_v270) :=
  by
  have eK := final_unary (KernelIdeal.Tail.writes_ks1 (F := Ideal)) WK 84 (rest := (KernelIdeal.Tail.ks1 (F := Ideal)).drop 85) (wrest := KernelIdeal.Tail.wr_ks1.drop 85) (y := KernelIdeal.main_v257) (x := KernelIdeal.main_v255) rfl rfl (by decide +kernel) (by decide +kernel)
  have eR := final_unary (ReferenceIdeal.Hand.writes_tlOps1 (F := Ideal)) WR 79 (rest := (ReferenceIdeal.Hand.tlOps1 (F := Ideal)).drop 80) (wrest := ReferenceIdeal.Hand.wr_tlOps1.drop 80) (y := ReferenceIdeal.main_v270) (x := ReferenceIdeal.main_v268) rfl rfl (by decide +kernel) (by decide +kernel)
  rw [eK, eR, h76 WK WR hP hLin hVal]
  try rfl
theorem h80 : StableHlo.after (KernelIdeal.Tail.ks1 (F := Ideal)) WK (Proc.devRef .tc KernelIdeal.main_v258) = StableHlo.after (ReferenceIdeal.Hand.tlOps1 (F := Ideal)) WR (Proc.devRef .tc ReferenceIdeal.main_v271) :=
  by
  have eK := final_unary (KernelIdeal.Tail.writes_ks1 (F := Ideal)) WK 85 (rest := (KernelIdeal.Tail.ks1 (F := Ideal)).drop 86) (wrest := KernelIdeal.Tail.wr_ks1.drop 86) (y := KernelIdeal.main_v258) (x := KernelIdeal.main_v255) rfl rfl (by decide +kernel) (by decide +kernel)
  have eR := final_unary (ReferenceIdeal.Hand.writes_tlOps1 (F := Ideal)) WR 80 (rest := (ReferenceIdeal.Hand.tlOps1 (F := Ideal)).drop 81) (wrest := ReferenceIdeal.Hand.wr_tlOps1.drop 81) (y := ReferenceIdeal.main_v271) (x := ReferenceIdeal.main_v268) rfl rfl (by decide +kernel) (by decide +kernel)
  rw [eK, eR, h76 WK WR hP hLin hVal]
  try rfl
theorem h81 : StableHlo.after (KernelIdeal.Tail.ks1 (F := Ideal)) WK (Proc.devRef .tc KernelIdeal.main_v259) = StableHlo.after (ReferenceIdeal.Hand.tlOps1 (F := Ideal)) WR (Proc.devRef .tc ReferenceIdeal.main_v272) :=
  by
  have eK := final_binary (KernelIdeal.Tail.writes_ks1 (F := Ideal)) WK 86 (rest := (KernelIdeal.Tail.ks1 (F := Ideal)).drop 87) (wrest := KernelIdeal.Tail.wr_ks1.drop 87) (y := KernelIdeal.main_v259) (a := KernelIdeal.main_v257) (b := KernelIdeal.main_v258) rfl rfl (by decide +kernel) (by decide +kernel) (by decide +kernel)
  have eR := final_binary (ReferenceIdeal.Hand.writes_tlOps1 (F := Ideal)) WR 81 (rest := (ReferenceIdeal.Hand.tlOps1 (F := Ideal)).drop 82) (wrest := ReferenceIdeal.Hand.wr_tlOps1.drop 82) (y := ReferenceIdeal.main_v272) (a := ReferenceIdeal.main_v270) (b := ReferenceIdeal.main_v271) rfl rfl (by decide +kernel) (by decide +kernel) (by decide +kernel)
  rw [eK, eR, h79 WK WR hP hLin hVal, h80 WK WR hP hLin hVal]
  try rfl
theorem h82 : StableHlo.after (KernelIdeal.Tail.ks1 (F := Ideal)) WK (Proc.devRef .tc KernelIdeal.main_v260) = StableHlo.after (ReferenceIdeal.Hand.tlOps1 (F := Ideal)) WR (Proc.devRef .tc ReferenceIdeal.main_v273) :=
  by
  have eK := final_binary (KernelIdeal.Tail.writes_ks1 (F := Ideal)) WK 87 (rest := (KernelIdeal.Tail.ks1 (F := Ideal)).drop 88) (wrest := KernelIdeal.Tail.wr_ks1.drop 88) (y := KernelIdeal.main_v260) (a := KernelIdeal.main_v256) (b := KernelIdeal.main_v259) rfl rfl (by decide +kernel) (by decide +kernel) (by decide +kernel)
  have eR := final_binary (ReferenceIdeal.Hand.writes_tlOps1 (F := Ideal)) WR 82 (rest := (ReferenceIdeal.Hand.tlOps1 (F := Ideal)).drop 83) (wrest := ReferenceIdeal.Hand.wr_tlOps1.drop 83) (y := ReferenceIdeal.main_v273) (a := ReferenceIdeal.main_v269) (b := ReferenceIdeal.main_v272) rfl rfl (by decide +kernel) (by decide +kernel) (by decide +kernel)
  rw [eK, eR, h78 WK WR hP hLin hVal, h81 WK WR hP hLin hVal]
  try rfl
theorem h83 : StableHlo.after (KernelIdeal.Tail.ks1 (F := Ideal)) WK (Proc.devRef .tc KernelIdeal.main_c_105) = StableHlo.after (ReferenceIdeal.Hand.tlOps1 (F := Ideal)) WR (Proc.devRef .tc ReferenceIdeal.main_c_98) :=
  by
  have eK := final_nullary (KernelIdeal.Tail.writes_ks1 (F := Ideal)) WK 88 (rest := (KernelIdeal.Tail.ks1 (F := Ideal)).drop 89) (wrest := KernelIdeal.Tail.wr_ks1.drop 89) (y := KernelIdeal.main_c_105) rfl rfl (by decide +kernel)
  have eR := final_nullary (ReferenceIdeal.Hand.writes_tlOps1 (F := Ideal)) WR 83 (rest := (ReferenceIdeal.Hand.tlOps1 (F := Ideal)).drop 84) (wrest := ReferenceIdeal.Hand.wr_tlOps1.drop 84) (y := ReferenceIdeal.main_c_98) rfl rfl (by decide +kernel)
  rw [eK, eR]
  try rfl
theorem h84 : StableHlo.after (KernelIdeal.Tail.ks1 (F := Ideal)) WK (Proc.devRef .tc KernelIdeal.main_call24_v0) = StableHlo.after (ReferenceIdeal.Hand.tlOps1 (F := Ideal)) WR (Proc.devRef .tc ReferenceIdeal.main_call26_v0) :=
  by
  have eK := final_unary (KernelIdeal.Tail.writes_ks1 (F := Ideal)) WK 89 (rest := (KernelIdeal.Tail.ks1 (F := Ideal)).drop 90) (wrest := KernelIdeal.Tail.wr_ks1.drop 90) (y := KernelIdeal.main_call24_v0) (x := KernelIdeal.main_c_105) rfl rfl (by decide +kernel) (by decide +kernel)
  have eR := final_unary (ReferenceIdeal.Hand.writes_tlOps1 (F := Ideal)) WR 84 (rest := (ReferenceIdeal.Hand.tlOps1 (F := Ideal)).drop 85) (wrest := ReferenceIdeal.Hand.wr_tlOps1.drop 85) (y := ReferenceIdeal.main_call26_v0) (x := ReferenceIdeal.main_c_98) rfl rfl (by decide +kernel) (by decide +kernel)
  rw [eK, eR, h83 WK WR hP hLin hVal]
  try rfl
theorem h85 : StableHlo.after (KernelIdeal.Tail.ks1 (F := Ideal)) WK (Proc.devRef .tc KernelIdeal.main_call24_v1) = StableHlo.after (ReferenceIdeal.Hand.tlOps1 (F := Ideal)) WR (Proc.devRef .tc ReferenceIdeal.main_call26_v1) :=
  by
  have eK := final_unary (KernelIdeal.Tail.writes_ks1 (F := Ideal)) WK 90 (rest := (KernelIdeal.Tail.ks1 (F := Ideal)).drop 91) (wrest := KernelIdeal.Tail.wr_ks1.drop 91) (y := KernelIdeal.main_call24_v1) (x := KernelIdeal.main_call24_v0) rfl rfl (by decide +kernel) (by decide +kernel)
  have eR := final_unary (ReferenceIdeal.Hand.writes_tlOps1 (F := Ideal)) WR 85 (rest := (ReferenceIdeal.Hand.tlOps1 (F := Ideal)).drop 86) (wrest := ReferenceIdeal.Hand.wr_tlOps1.drop 86) (y := ReferenceIdeal.main_call26_v1) (x := ReferenceIdeal.main_call26_v0) rfl rfl (by decide +kernel) (by decide +kernel)
  rw [eK, eR, h84 WK WR hP hLin hVal]
  try rfl
theorem h86 : StableHlo.after (KernelIdeal.Tail.ks1 (F := Ideal)) WK (Proc.devRef .tc KernelIdeal.main_v261) = StableHlo.after (ReferenceIdeal.Hand.tlOps1 (F := Ideal)) WR (Proc.devRef .tc ReferenceIdeal.main_v274) :=
  by
  have eK := final_ternary (KernelIdeal.Tail.writes_ks1 (F := Ideal)) WK 91 (rest := (KernelIdeal.Tail.ks1 (F := Ideal)).drop 92) (wrest := KernelIdeal.Tail.wr_ks1.drop 92) (y := KernelIdeal.main_v261) (c := KernelIdeal.main_v260) (a := KernelIdeal.main_v206) (b := KernelIdeal.main_call24_v1) rfl rfl (by decide +kernel) (by decide +kernel) (by decide +kernel) (by decide +kernel)
  have eR := final_ternary (ReferenceIdeal.Hand.writes_tlOps1 (F := Ideal)) WR 86 (rest := (ReferenceIdeal.Hand.tlOps1 (F := Ideal)).drop 87) (wrest := ReferenceIdeal.Hand.wr_tlOps1.drop 87) (y := ReferenceIdeal.main_v274) (c := ReferenceIdeal.main_v273) (a := ReferenceIdeal.main_v219) (b := ReferenceIdeal.main_call26_v1) rfl rfl (by decide +kernel) (by decide +kernel) (by decide +kernel) (by decide +kernel)
  rw [eK, eR, h82 WK WR hP hLin hVal, h0 WK WR hP hLin hVal, h85 WK WR hP hLin hVal]
  try rfl
theorem h87 : StableHlo.after (KernelIdeal.Tail.ks1 (F := Ideal)) WK (Proc.devRef .tc KernelIdeal.main_call25_c) = StableHlo.after (ReferenceIdeal.Hand.tlOps1 (F := Ideal)) WR (Proc.devRef .tc ReferenceIdeal.main_call27_c) :=
  by
  have eK := final_nullary (KernelIdeal.Tail.writes_ks1 (F := Ideal)) WK 92 (rest := (KernelIdeal.Tail.ks1 (F := Ideal)).drop 93) (wrest := KernelIdeal.Tail.wr_ks1.drop 93) (y := KernelIdeal.main_call25_c) rfl rfl (by decide +kernel)
  have eR := final_nullary (ReferenceIdeal.Hand.writes_tlOps1 (F := Ideal)) WR 87 (rest := (ReferenceIdeal.Hand.tlOps1 (F := Ideal)).drop 88) (wrest := ReferenceIdeal.Hand.wr_tlOps1.drop 88) (y := ReferenceIdeal.main_call27_c) rfl rfl (by decide +kernel)
  rw [eK, eR]
  try rfl
theorem h88 : StableHlo.after (KernelIdeal.Tail.ks1 (F := Ideal)) WK (Proc.devRef .tc KernelIdeal.main_call25_v0) = StableHlo.after (ReferenceIdeal.Hand.tlOps1 (F := Ideal)) WR (Proc.devRef .tc ReferenceIdeal.main_call27_v0) :=
  by
  have eK := final_unary (KernelIdeal.Tail.writes_ks1 (F := Ideal)) WK 93 (rest := (KernelIdeal.Tail.ks1 (F := Ideal)).drop 94) (wrest := KernelIdeal.Tail.wr_ks1.drop 94) (y := KernelIdeal.main_call25_v0) (x := KernelIdeal.main_call25_c) rfl rfl (by decide +kernel) (by decide +kernel)
  have eR := final_unary (ReferenceIdeal.Hand.writes_tlOps1 (F := Ideal)) WR 88 (rest := (ReferenceIdeal.Hand.tlOps1 (F := Ideal)).drop 89) (wrest := ReferenceIdeal.Hand.wr_tlOps1.drop 89) (y := ReferenceIdeal.main_call27_v0) (x := ReferenceIdeal.main_call27_c) rfl rfl (by decide +kernel) (by decide +kernel)
  rw [eK, eR, h87 WK WR hP hLin hVal]
  try rfl
theorem h89 : StableHlo.after (KernelIdeal.Tail.ks1 (F := Ideal)) WK (Proc.devRef .tc KernelIdeal.main_v262) = StableHlo.after (ReferenceIdeal.Hand.tlOps1 (F := Ideal)) WR (Proc.devRef .tc ReferenceIdeal.main_v275) :=
  by
  have eK := final_binary (KernelIdeal.Tail.writes_ks1 (F := Ideal)) WK 94 (rest := (KernelIdeal.Tail.ks1 (F := Ideal)).drop 95) (wrest := KernelIdeal.Tail.wr_ks1.drop 95) (y := KernelIdeal.main_v262) (a := KernelIdeal.main_v261) (b := KernelIdeal.main_call25_v0) rfl rfl (by decide +kernel) (by decide +kernel) (by decide +kernel)
  have eR := final_binary (ReferenceIdeal.Hand.writes_tlOps1 (F := Ideal)) WR 89 (rest := (ReferenceIdeal.Hand.tlOps1 (F := Ideal)).drop 90) (wrest := ReferenceIdeal.Hand.wr_tlOps1.drop 90) (y := ReferenceIdeal.main_v275) (a := ReferenceIdeal.main_v274) (b := ReferenceIdeal.main_call27_v0) rfl rfl (by decide +kernel) (by decide +kernel) (by decide +kernel)
  rw [eK, eR, h86 WK WR hP hLin hVal, h88 WK WR hP hLin hVal]
  try rfl
theorem h90 : StableHlo.after (KernelIdeal.Tail.ks1 (F := Ideal)) WK (Proc.devRef .tc KernelIdeal.main_c_106) = StableHlo.after (ReferenceIdeal.Hand.tlOps1 (F := Ideal)) WR (Proc.devRef .tc ReferenceIdeal.main_c_99) :=
  by
  have eK := final_nullary (KernelIdeal.Tail.writes_ks1 (F := Ideal)) WK 95 (rest := (KernelIdeal.Tail.ks1 (F := Ideal)).drop 96) (wrest := KernelIdeal.Tail.wr_ks1.drop 96) (y := KernelIdeal.main_c_106) rfl rfl (by decide +kernel)
  have eR := final_nullary (ReferenceIdeal.Hand.writes_tlOps1 (F := Ideal)) WR 90 (rest := (ReferenceIdeal.Hand.tlOps1 (F := Ideal)).drop 91) (wrest := ReferenceIdeal.Hand.wr_tlOps1.drop 91) (y := ReferenceIdeal.main_c_99) rfl rfl (by decide +kernel)
  rw [eK, eR]
  try rfl
theorem h91 : StableHlo.after (KernelIdeal.Tail.ks1 (F := Ideal)) WK (Proc.devRef .tc KernelIdeal.main_v263) = StableHlo.after (ReferenceIdeal.Hand.tlOps1 (F := Ideal)) WR (Proc.devRef .tc ReferenceIdeal.main_v276) :=
  by
  have eK := final_unary (KernelIdeal.Tail.writes_ks1 (F := Ideal)) WK 96 (rest := (KernelIdeal.Tail.ks1 (F := Ideal)).drop 97) (wrest := KernelIdeal.Tail.wr_ks1.drop 97) (y := KernelIdeal.main_v263) (x := KernelIdeal.main_c_106) rfl rfl (by decide +kernel) (by decide +kernel)
  have eR := final_unary (ReferenceIdeal.Hand.writes_tlOps1 (F := Ideal)) WR 91 (rest := (ReferenceIdeal.Hand.tlOps1 (F := Ideal)).drop 92) (wrest := ReferenceIdeal.Hand.wr_tlOps1.drop 92) (y := ReferenceIdeal.main_v276) (x := ReferenceIdeal.main_c_99) rfl rfl (by decide +kernel) (by decide +kernel)
  rw [eK, eR, h90 WK WR hP hLin hVal]
  try rfl
theorem h92 : StableHlo.after (KernelIdeal.Tail.ks1 (F := Ideal)) WK (Proc.devRef .tc KernelIdeal.main_v264) = StableHlo.after (ReferenceIdeal.Hand.tlOps1 (F := Ideal)) WR (Proc.devRef .tc ReferenceIdeal.main_v277) :=
  by
  have eK := final_binary (KernelIdeal.Tail.writes_ks1 (F := Ideal)) WK 97 (rest := (KernelIdeal.Tail.ks1 (F := Ideal)).drop 98) (wrest := KernelIdeal.Tail.wr_ks1.drop 98) (y := KernelIdeal.main_v264) (a := KernelIdeal.main_v206) (b := KernelIdeal.main_v262) rfl rfl (by decide +kernel) (by decide +kernel) (by decide +kernel)
  have eR := final_binary (ReferenceIdeal.Hand.writes_tlOps1 (F := Ideal)) WR 92 (rest := (ReferenceIdeal.Hand.tlOps1 (F := Ideal)).drop 93) (wrest := ReferenceIdeal.Hand.wr_tlOps1.drop 93) (y := ReferenceIdeal.main_v277) (a := ReferenceIdeal.main_v219) (b := ReferenceIdeal.main_v275) rfl rfl (by decide +kernel) (by decide +kernel) (by decide +kernel)
  rw [eK, eR, h0 WK WR hP hLin hVal, h89 WK WR hP hLin hVal]
  try rfl
theorem h93 : StableHlo.after (KernelIdeal.Tail.ks1 (F := Ideal)) WK (Proc.devRef .tc KernelIdeal.main_c_107) = StableHlo.after (ReferenceIdeal.Hand.tlOps1 (F := Ideal)) WR (Proc.devRef .tc ReferenceIdeal.main_c_100) :=
  by
  have eK := final_nullary (KernelIdeal.Tail.writes_ks1 (F := Ideal)) WK 98 (rest := (KernelIdeal.Tail.ks1 (F := Ideal)).drop 99) (wrest := KernelIdeal.Tail.wr_ks1.drop 99) (y := KernelIdeal.main_c_107) rfl rfl (by decide +kernel)
  have eR := final_nullary (ReferenceIdeal.Hand.writes_tlOps1 (F := Ideal)) WR 93 (rest := (ReferenceIdeal.Hand.tlOps1 (F := Ideal)).drop 94) (wrest := ReferenceIdeal.Hand.wr_tlOps1.drop 94) (y := ReferenceIdeal.main_c_100) rfl rfl (by decide +kernel)
  rw [eK, eR]
  try rfl
theorem h94 : StableHlo.after (KernelIdeal.Tail.ks1 (F := Ideal)) WK (Proc.devRef .tc KernelIdeal.main_v265) = StableHlo.after (ReferenceIdeal.Hand.tlOps1 (F := Ideal)) WR (Proc.devRef .tc ReferenceIdeal.main_v278) :=
  by
  have eK := final_unary (KernelIdeal.Tail.writes_ks1 (F := Ideal)) WK 99 (rest := (KernelIdeal.Tail.ks1 (F := Ideal)).drop 100) (wrest := KernelIdeal.Tail.wr_ks1.drop 100) (y := KernelIdeal.main_v265) (x := KernelIdeal.main_c_107) rfl rfl (by decide +kernel) (by decide +kernel)
  have eR := final_unary (ReferenceIdeal.Hand.writes_tlOps1 (F := Ideal)) WR 94 (rest := (ReferenceIdeal.Hand.tlOps1 (F := Ideal)).drop 95) (wrest := ReferenceIdeal.Hand.wr_tlOps1.drop 95) (y := ReferenceIdeal.main_v278) (x := ReferenceIdeal.main_c_100) rfl rfl (by decide +kernel) (by decide +kernel)
  rw [eK, eR, h93 WK WR hP hLin hVal]
  try rfl
theorem h95 : StableHlo.after (KernelIdeal.Tail.ks1 (F := Ideal)) WK (Proc.devRef .tc KernelIdeal.main_v266) = StableHlo.after (ReferenceIdeal.Hand.tlOps1 (F := Ideal)) WR (Proc.devRef .tc ReferenceIdeal.main_v279) :=
  by
  have eK := final_binary (KernelIdeal.Tail.writes_ks1 (F := Ideal)) WK 100 (rest := (KernelIdeal.Tail.ks1 (F := Ideal)).drop 101) (wrest := KernelIdeal.Tail.wr_ks1.drop 101) (y := KernelIdeal.main_v266) (a := KernelIdeal.main_v248) (b := KernelIdeal.main_v265) rfl rfl (by decide +kernel) (by decide +kernel) (by decide +kernel)
  have eR := final_binary (ReferenceIdeal.Hand.writes_tlOps1 (F := Ideal)) WR 95 (rest := (ReferenceIdeal.Hand.tlOps1 (F := Ideal)).drop 96) (wrest := ReferenceIdeal.Hand.wr_tlOps1.drop 96) (y := ReferenceIdeal.main_v279) (a := ReferenceIdeal.main_v261) (b := ReferenceIdeal.main_v278) rfl rfl (by decide +kernel) (by decide +kernel) (by decide +kernel)
  rw [eK, eR, h67 WK WR hP hLin hVal, h94 WK WR hP hLin hVal]
  try rfl
theorem h96 : StableHlo.after (KernelIdeal.Tail.ks1 (F := Ideal)) WK (Proc.devRef .tc KernelIdeal.main_c_108) = StableHlo.after (ReferenceIdeal.Hand.tlOps1 (F := Ideal)) WR (Proc.devRef .tc ReferenceIdeal.main_c_101) :=
  by
  have eK := final_nullary (KernelIdeal.Tail.writes_ks1 (F := Ideal)) WK 101 (rest := (KernelIdeal.Tail.ks1 (F := Ideal)).drop 102) (wrest := KernelIdeal.Tail.wr_ks1.drop 102) (y := KernelIdeal.main_c_108) rfl rfl (by decide +kernel)
  have eR := final_nullary (ReferenceIdeal.Hand.writes_tlOps1 (F := Ideal)) WR 96 (rest := (ReferenceIdeal.Hand.tlOps1 (F := Ideal)).drop 97) (wrest := ReferenceIdeal.Hand.wr_tlOps1.drop 97) (y := ReferenceIdeal.main_c_101) rfl rfl (by decide +kernel)
  rw [eK, eR]
  try rfl
theorem h97 : StableHlo.after (KernelIdeal.Tail.ks1 (F := Ideal)) WK (Proc.devRef .tc KernelIdeal.main_v267) = StableHlo.after (ReferenceIdeal.Hand.tlOps1 (F := Ideal)) WR (Proc.devRef .tc ReferenceIdeal.main_v280) :=
  by
  have eK := final_unary (KernelIdeal.Tail.writes_ks1 (F := Ideal)) WK 102 (rest := (KernelIdeal.Tail.ks1 (F := Ideal)).drop 103) (wrest := KernelIdeal.Tail.wr_ks1.drop 103) (y := KernelIdeal.main_v267) (x := KernelIdeal.main_c_108) rfl rfl (by decide +kernel) (by decide +kernel)
  have eR := final_unary (ReferenceIdeal.Hand.writes_tlOps1 (F := Ideal)) WR 97 (rest := (ReferenceIdeal.Hand.tlOps1 (F := Ideal)).drop 98) (wrest := ReferenceIdeal.Hand.wr_tlOps1.drop 98) (y := ReferenceIdeal.main_v280) (x := ReferenceIdeal.main_c_101) rfl rfl (by decide +kernel) (by decide +kernel)
  rw [eK, eR, h96 WK WR hP hLin hVal]
  try rfl
theorem h98 : StableHlo.after (KernelIdeal.Tail.ks1 (F := Ideal)) WK (Proc.devRef .tc KernelIdeal.main_v268) = StableHlo.after (ReferenceIdeal.Hand.tlOps1 (F := Ideal)) WR (Proc.devRef .tc ReferenceIdeal.main_v281) :=
  by
  have eK := final_binary (KernelIdeal.Tail.writes_ks1 (F := Ideal)) WK 103 (rest := (KernelIdeal.Tail.ks1 (F := Ideal)).drop 104) (wrest := KernelIdeal.Tail.wr_ks1.drop 104) (y := KernelIdeal.main_v268) (a := KernelIdeal.main_v248) (b := KernelIdeal.main_v267) rfl rfl (by decide +kernel) (by decide +kernel) (by decide +kernel)
  have eR := final_binary (ReferenceIdeal.Hand.writes_tlOps1 (F := Ideal)) WR 98 (rest := (ReferenceIdeal.Hand.tlOps1 (F := Ideal)).drop 99) (wrest := ReferenceIdeal.Hand.wr_tlOps1.drop 99) (y := ReferenceIdeal.main_v281) (a := ReferenceIdeal.main_v261) (b := ReferenceIdeal.main_v280) rfl rfl (by decide +kernel) (by decide +kernel) (by decide +kernel)
  rw [eK, eR, h67 WK WR hP hLin hVal, h97 WK WR hP hLin hVal]
  try rfl
theorem h99 : StableHlo.after (KernelIdeal.Tail.ks1 (F := Ideal)) WK (Proc.devRef .tc KernelIdeal.main_v269) = StableHlo.after (ReferenceIdeal.Hand.tlOps1 (F := Ideal)) WR (Proc.devRef .tc ReferenceIdeal.main_v282) :=
  by
  have eK := final_ternary (KernelIdeal.Tail.writes_ks1 (F := Ideal)) WK 104 (rest := (KernelIdeal.Tail.ks1 (F := Ideal)).drop 105) (wrest := KernelIdeal.Tail.wr_ks1.drop 105) (y := KernelIdeal.main_v269) (c := KernelIdeal.main_v266) (a := KernelIdeal.main_v268) (b := KernelIdeal.main_v248) rfl rfl (by decide +kernel) (by decide +kernel) (by decide +kernel) (by decide +kernel)
  have eR := final_ternary (ReferenceIdeal.Hand.writes_tlOps1 (F := Ideal)) WR 99 (rest := (ReferenceIdeal.Hand.tlOps1 (F := Ideal)).drop 100) (wrest := ReferenceIdeal.Hand.wr_tlOps1.drop 100) (y := ReferenceIdeal.main_v282) (c := ReferenceIdeal.main_v279) (a := ReferenceIdeal.main_v281) (b := ReferenceIdeal.main_v261) rfl rfl (by decide +kernel) (by decide +kernel) (by decide +kernel) (by decide +kernel)
  rw [eK, eR, h95 WK WR hP hLin hVal, h98 WK WR hP hLin hVal, h67 WK WR hP hLin hVal]
  try rfl
theorem h100 : StableHlo.after (KernelIdeal.Tail.ks1 (F := Ideal)) WK (Proc.devRef .tc KernelIdeal.main_v270) = StableHlo.after (ReferenceIdeal.Hand.tlOps1 (F := Ideal)) WR (Proc.devRef .tc ReferenceIdeal.main_v283) :=
  by
  have eK := final_unary (KernelIdeal.Tail.writes_ks1 (F := Ideal)) WK 105 (rest := (KernelIdeal.Tail.ks1 (F := Ideal)).drop 106) (wrest := KernelIdeal.Tail.wr_ks1.drop 106) (y := KernelIdeal.main_v270) (x := KernelIdeal.main_v269) rfl rfl (by decide +kernel) (by decide +kernel)
  have eR := final_unary (ReferenceIdeal.Hand.writes_tlOps1 (F := Ideal)) WR 100 (rest := (ReferenceIdeal.Hand.tlOps1 (F := Ideal)).drop 101) (wrest := ReferenceIdeal.Hand.wr_tlOps1.drop 101) (y := ReferenceIdeal.main_v283) (x := ReferenceIdeal.main_v282) rfl rfl (by decide +kernel) (by decide +kernel)
  rw [eK, eR, h99 WK WR hP hLin hVal]
  try rfl
theorem h101 : StableHlo.after (KernelIdeal.Tail.ks1 (F := Ideal)) WK (Proc.devRef .tc KernelIdeal.main_v271) = StableHlo.after (ReferenceIdeal.Hand.tlOps1 (F := Ideal)) WR (Proc.devRef .tc ReferenceIdeal.main_v284) :=
  by
  have eK := final_ternary (KernelIdeal.Tail.writes_ks1 (F := Ideal)) WK 106 (rest := (KernelIdeal.Tail.ks1 (F := Ideal)).drop 107) (wrest := KernelIdeal.Tail.wr_ks1.drop 107) (y := KernelIdeal.main_v271) (c := KernelIdeal.main_v263) (a := KernelIdeal.main_v270) (b := KernelIdeal.main_v264) rfl rfl (by decide +kernel) (by decide +kernel) (by decide +kernel) (by decide +kernel)
  have eR := final_ternary (ReferenceIdeal.Hand.writes_tlOps1 (F := Ideal)) WR 101 (rest := (ReferenceIdeal.Hand.tlOps1 (F := Ideal)).drop 102) (wrest := ReferenceIdeal.Hand.wr_tlOps1.drop 102) (y := ReferenceIdeal.main_v284) (c := ReferenceIdeal.main_v276) (a := ReferenceIdeal.main_v283) (b := ReferenceIdeal.main_v277) rfl rfl (by decide +kernel) (by decide +kernel) (by decide +kernel) (by decide +kernel)
  rw [eK, eR, h91 WK WR hP hLin hVal, h100 WK WR hP hLin hVal, h92 WK WR hP hLin hVal]
  try rfl
theorem h102 : StableHlo.after (KernelIdeal.Tail.ks1 (F := Ideal)) WK (Proc.devRef .tc KernelIdeal.main_c_109) = StableHlo.after (ReferenceIdeal.Hand.tlOps1 (F := Ideal)) WR (Proc.devRef .tc ReferenceIdeal.main_c_102) :=
  by
  have eK := final_nullary (KernelIdeal.Tail.writes_ks1 (F := Ideal)) WK 107 (rest := (KernelIdeal.Tail.ks1 (F := Ideal)).drop 108) (wrest := KernelIdeal.Tail.wr_ks1.drop 108) (y := KernelIdeal.main_c_109) rfl rfl (by decide +kernel)
  have eR := final_nullary (ReferenceIdeal.Hand.writes_tlOps1 (F := Ideal)) WR 102 (rest := (ReferenceIdeal.Hand.tlOps1 (F := Ideal)).drop 103) (wrest := ReferenceIdeal.Hand.wr_tlOps1.drop 103) (y := ReferenceIdeal.main_c_102) rfl rfl (by decide +kernel)
  rw [eK, eR]
  try rfl
theorem h103 : StableHlo.after (KernelIdeal.Tail.ks1 (F := Ideal)) WK (Proc.devRef .tc KernelIdeal.main_v272) = StableHlo.after (ReferenceIdeal.Hand.tlOps1 (F := Ideal)) WR (Proc.devRef .tc ReferenceIdeal.main_v285) :=
  by
  have eK := final_unary (KernelIdeal.Tail.writes_ks1 (F := Ideal)) WK 108 (rest := (KernelIdeal.Tail.ks1 (F := Ideal)).drop 109) (wrest := KernelIdeal.Tail.wr_ks1.drop 109) (y := KernelIdeal.main_v272) (x := KernelIdeal.main_c_109) rfl rfl (by decide +kernel) (by decide +kernel)
  have eR := final_unary (ReferenceIdeal.Hand.writes_tlOps1 (F := Ideal)) WR 103 (rest := (ReferenceIdeal.Hand.tlOps1 (F := Ideal)).drop 104) (wrest := ReferenceIdeal.Hand.wr_tlOps1.drop 104) (y := ReferenceIdeal.main_v285) (x := ReferenceIdeal.main_c_102) rfl rfl (by decide +kernel) (by decide +kernel)
  rw [eK, eR, h102 WK WR hP hLin hVal]
  try rfl
theorem h104 : StableHlo.after (KernelIdeal.Tail.ks1 (F := Ideal)) WK (Proc.devRef .tc KernelIdeal.main_v273) = StableHlo.after (ReferenceIdeal.Hand.tlOps1 (F := Ideal)) WR (Proc.devRef .tc ReferenceIdeal.main_v286) :=
  by
  have eK := final_binary (KernelIdeal.Tail.writes_ks1 (F := Ideal)) WK 109 (rest := (KernelIdeal.Tail.ks1 (F := Ideal)).drop 110) (wrest := KernelIdeal.Tail.wr_ks1.drop 110) (y := KernelIdeal.main_v273) (a := KernelIdeal.main_v247) (b := KernelIdeal.main_v272) rfl rfl (by decide +kernel) (by decide +kernel) (by decide +kernel)
  have eR := final_binary (ReferenceIdeal.Hand.writes_tlOps1 (F := Ideal)) WR 104 (rest := (ReferenceIdeal.Hand.tlOps1 (F := Ideal)).drop 105) (wrest := ReferenceIdeal.Hand.wr_tlOps1.drop 105) (y := ReferenceIdeal.main_v286) (a := ReferenceIdeal.main_v260) (b := ReferenceIdeal.main_v285) rfl rfl (by decide +kernel) (by decide +kernel) (by decide +kernel)
  rw [eK, eR, h64 WK WR hP hLin hVal, h103 WK WR hP hLin hVal]
  try rfl
theorem h105 : StableHlo.after (KernelIdeal.Tail.ks1 (F := Ideal)) WK (Proc.devRef .tc KernelIdeal.main_v274) = StableHlo.after (ReferenceIdeal.Hand.tlOps1 (F := Ideal)) WR (Proc.devRef .tc ReferenceIdeal.main_v287) :=
  by
  have eK := final_binary (KernelIdeal.Tail.writes_ks1 (F := Ideal)) WK 110 (rest := (KernelIdeal.Tail.ks1 (F := Ideal)).drop 111) (wrest := KernelIdeal.Tail.wr_ks1.drop 111) (y := KernelIdeal.main_v274) (a := KernelIdeal.main_v205) (b := KernelIdeal.main_v273) rfl rfl (by decide +kernel) (by decide +kernel) (by decide +kernel)
  have eR := final_binary (ReferenceIdeal.Hand.writes_tlOps1 (F := Ideal)) WR 105 (rest := (ReferenceIdeal.Hand.tlOps1 (F := Ideal)).drop 106) (wrest := ReferenceIdeal.Hand.wr_tlOps1.drop 106) (y := ReferenceIdeal.main_v287) (a := ReferenceIdeal.main_v205) (b := ReferenceIdeal.main_v286) rfl rfl (by decide +kernel) (by decide +kernel) (by decide +kernel)
  rw [eK, eR, hVal, h104 WK WR hP hLin hVal]
  try rfl
theorem h106 : StableHlo.after (KernelIdeal.Tail.ks1 (F := Ideal)) WK (Proc.devRef .tc KernelIdeal.main_c_110) = StableHlo.after (ReferenceIdeal.Hand.tlOps1 (F := Ideal)) WR (Proc.devRef .tc ReferenceIdeal.main_c_103) :=
  by
  have eK := final_nullary (KernelIdeal.Tail.writes_ks1 (F := Ideal)) WK 111 (rest := (KernelIdeal.Tail.ks1 (F := Ideal)).drop 112) (wrest := KernelIdeal.Tail.wr_ks1.drop 112) (y := KernelIdeal.main_c_110) rfl rfl (by decide +kernel)
  have eR := final_nullary (ReferenceIdeal.Hand.writes_tlOps1 (F := Ideal)) WR 106 (rest := (ReferenceIdeal.Hand.tlOps1 (F := Ideal)).drop 107) (wrest := ReferenceIdeal.Hand.wr_tlOps1.drop 107) (y := ReferenceIdeal.main_c_103) rfl rfl (by decide +kernel)
  rw [eK, eR]
  try rfl
theorem h107 : StableHlo.after (KernelIdeal.Tail.ks1 (F := Ideal)) WK (Proc.devRef .tc KernelIdeal.main_v275) = StableHlo.after (ReferenceIdeal.Hand.tlOps1 (F := Ideal)) WR (Proc.devRef .tc ReferenceIdeal.main_v288) :=
  by
  have eK := final_unary (KernelIdeal.Tail.writes_ks1 (F := Ideal)) WK 112 (rest := (KernelIdeal.Tail.ks1 (F := Ideal)).drop 113) (wrest := KernelIdeal.Tail.wr_ks1.drop 113) (y := KernelIdeal.main_v275) (x := KernelIdeal.main_c_110) rfl rfl (by decide +kernel) (by decide +kernel)
  have eR := final_unary (ReferenceIdeal.Hand.writes_tlOps1 (F := Ideal)) WR 107 (rest := (ReferenceIdeal.Hand.tlOps1 (F := Ideal)).drop 108) (wrest := ReferenceIdeal.Hand.wr_tlOps1.drop 108) (y := ReferenceIdeal.main_v288) (x := ReferenceIdeal.main_c_103) rfl rfl (by decide +kernel) (by decide +kernel)
  rw [eK, eR, h106 WK WR hP hLin hVal]
  try rfl
theorem h108 : StableHlo.after (KernelIdeal.Tail.ks1 (F := Ideal)) WK (Proc.devRef .tc KernelIdeal.main_v276) = StableHlo.after (ReferenceIdeal.Hand.tlOps1 (F := Ideal)) WR (Proc.devRef .tc ReferenceIdeal.main_v289) :=
  by
  have eK := final_binary (KernelIdeal.Tail.writes_ks1 (F := Ideal)) WK 113 (rest := (KernelIdeal.Tail.ks1 (F := Ideal)).drop 114) (wrest := KernelIdeal.Tail.wr_ks1.drop 114) (y := KernelIdeal.main_v276) (a := KernelIdeal.main_v271) (b := KernelIdeal.main_v275) rfl rfl (by decide +kernel) (by decide +kernel) (by decide +kernel)
  have eR := final_binary (ReferenceIdeal.Hand.writes_tlOps1 (F := Ideal)) WR 108 (rest := (ReferenceIdeal.Hand.tlOps1 (F := Ideal)).drop 109) (wrest := ReferenceIdeal.Hand.wr_tlOps1.drop 109) (y := ReferenceIdeal.main_v289) (a := ReferenceIdeal.main_v284) (b := ReferenceIdeal.main_v288) rfl rfl (by decide +kernel) (by decide +kernel) (by decide +kernel)
  rw [eK, eR, h101 WK WR hP hLin hVal, h107 WK WR hP hLin hVal]
  try rfl
theorem h109 : StableHlo.after (KernelIdeal.Tail.ks1 (F := Ideal)) WK (Proc.devRef .tc KernelIdeal.main_v277) = StableHlo.after (ReferenceIdeal.Hand.tlOps1 (F := Ideal)) WR (Proc.devRef .tc ReferenceIdeal.main_v290) :=
  by
  have eK := final_binary (KernelIdeal.Tail.writes_ks1 (F := Ideal)) WK 114 (rest := (KernelIdeal.Tail.ks1 (F := Ideal)).drop 115) (wrest := KernelIdeal.Tail.wr_ks1.drop 115) (y := KernelIdeal.main_v277) (a := KernelIdeal.main_v274) (b := KernelIdeal.main_v276) rfl rfl (by decide +kernel) (by decide +kernel) (by decide +kernel)
  have eR := final_binary (ReferenceIdeal.Hand.writes_tlOps1 (F := Ideal)) WR 109 (rest := (ReferenceIdeal.Hand.tlOps1 (F := Ideal)).drop 110) (wrest := ReferenceIdeal.Hand.wr_tlOps1.drop 110) (y := ReferenceIdeal.main_v290) (a := ReferenceIdeal.main_v287) (b := ReferenceIdeal.main_v289) rfl rfl (by decide +kernel) (by decide +kernel) (by decide +kernel)
  rw [eK, eR, h105 WK WR hP hLin hVal, h108 WK WR hP hLin hVal]
  try rfl
theorem h110 : StableHlo.after (KernelIdeal.Tail.ks1 (F := Ideal)) WK (Proc.devRef .tc KernelIdeal.main_c_111) = StableHlo.after (ReferenceIdeal.Hand.tlOps1 (F := Ideal)) WR (Proc.devRef .tc ReferenceIdeal.main_c_104) :=
  by
  have eK := final_nullary (KernelIdeal.Tail.writes_ks1 (F := Ideal)) WK 115 (rest := (KernelIdeal.Tail.ks1 (F := Ideal)).drop 116) (wrest := KernelIdeal.Tail.wr_ks1.drop 116) (y := KernelIdeal.main_c_111) rfl rfl (by decide +kernel)
  have eR := final_nullary (ReferenceIdeal.Hand.writes_tlOps1 (F := Ideal)) WR 110 (rest := (ReferenceIdeal.Hand.tlOps1 (F := Ideal)).drop 111) (wrest := ReferenceIdeal.Hand.wr_tlOps1.drop 111) (y := ReferenceIdeal.main_c_104) rfl rfl (by decide +kernel)
  rw [eK, eR]
  try rfl
theorem h111 : StableHlo.after (KernelIdeal.Tail.ks1 (F := Ideal)) WK (Proc.devRef .tc KernelIdeal.main_call26_v0) = StableHlo.after (ReferenceIdeal.Hand.tlOps1 (F := Ideal)) WR (Proc.devRef .tc ReferenceIdeal.main_call28_v0) :=
  by
  have eK := final_unary (KernelIdeal.Tail.writes_ks1 (F := Ideal)) WK 116 (rest := (KernelIdeal.Tail.ks1 (F := Ideal)).drop 117) (wrest := KernelIdeal.Tail.wr_ks1.drop 117) (y := KernelIdeal.main_call26_v0) (x := KernelIdeal.main_c_111) rfl rfl (by decide +kernel) (by decide +kernel)
  have eR := final_unary (ReferenceIdeal.Hand.writes_tlOps1 (F := Ideal)) WR 111 (rest := (ReferenceIdeal.Hand.tlOps1 (F := Ideal)).drop 112) (wrest := ReferenceIdeal.Hand.wr_tlOps1.drop 112) (y := ReferenceIdeal.main_call28_v0) (x := ReferenceIdeal.main_c_104) rfl rfl (by decide +kernel) (by decide +kernel)
  rw [eK, eR, h110 WK WR hP hLin hVal]
  try rfl
theorem h112 : StableHlo.after (KernelIdeal.Tail.ks1 (F := Ideal)) WK (Proc.devRef .tc KernelIdeal.main_call26_v1) = StableHlo.after (ReferenceIdeal.Hand.tlOps1 (F := Ideal)) WR (Proc.devRef .tc ReferenceIdeal.main_call28_v1) :=
  by
  have eK := final_unary (KernelIdeal.Tail.writes_ks1 (F := Ideal)) WK 117 (rest := (KernelIdeal.Tail.ks1 (F := Ideal)).drop 118) (wrest := KernelIdeal.Tail.wr_ks1.drop 118) (y := KernelIdeal.main_call26_v1) (x := KernelIdeal.main_call26_v0) rfl rfl (by decide +kernel) (by decide +kernel)
  have eR := final_unary (ReferenceIdeal.Hand.writes_tlOps1 (F := Ideal)) WR 112 (rest := (ReferenceIdeal.Hand.tlOps1 (F := Ideal)).drop 113) (wrest := ReferenceIdeal.Hand.wr_tlOps1.drop 113) (y := ReferenceIdeal.main_call28_v1) (x := ReferenceIdeal.main_call28_v0) rfl rfl (by decide +kernel) (by decide +kernel)
  rw [eK, eR, h111 WK WR hP hLin hVal]
  try rfl
theorem h113 : StableHlo.after (KernelIdeal.Tail.ks1 (F := Ideal)) WK (Proc.devRef .tc KernelIdeal.main_v278) = StableHlo.after (ReferenceIdeal.Hand.tlOps1 (F := Ideal)) WR (Proc.devRef .tc ReferenceIdeal.main_v291) :=
  by
  have eK := final_ternary (KernelIdeal.Tail.writes_ks1 (F := Ideal)) WK 118 (rest := (KernelIdeal.Tail.ks1 (F := Ideal)).drop 119) (wrest := KernelIdeal.Tail.wr_ks1.drop 119) (y := KernelIdeal.main_v278) (c := KernelIdeal.main_v277) (a := KernelIdeal.main_v247) (b := KernelIdeal.main_call26_v1) rfl rfl (by decide +kernel) (by decide +kernel) (by decide +kernel) (by decide +kernel)
  have eR := final_ternary (ReferenceIdeal.Hand.writes_tlOps1 (F := Ideal)) WR 113 (rest := (ReferenceIdeal.Hand.tlOps1 (F := Ideal)).drop 114) (wrest := ReferenceIdeal.Hand.wr_tlOps1.drop 114) (y := ReferenceIdeal.main_v291) (c := ReferenceIdeal.main_v290) (a := ReferenceIdeal.main_v260) (b := ReferenceIdeal.main_call28_v1) rfl rfl (by decide +kernel) (by decide +kernel) (by decide +kernel) (by decide +kernel)
  rw [eK, eR, h109 WK WR hP hLin hVal, h64 WK WR hP hLin hVal, h112 WK WR hP hLin hVal]
  try rfl
theorem h114 : StableHlo.after (KernelIdeal.Tail.ks1 (F := Ideal)) WK (Proc.devRef .tc KernelIdeal.main_c_112) = StableHlo.after (ReferenceIdeal.Hand.tlOps1 (F := Ideal)) WR (Proc.devRef .tc ReferenceIdeal.main_c_105) :=
  by
  have eK := final_nullary (KernelIdeal.Tail.writes_ks1 (F := Ideal)) WK 119 (rest := (KernelIdeal.Tail.ks1 (F := Ideal)).drop 120) (wrest := KernelIdeal.Tail.wr_ks1.drop 120) (y := KernelIdeal.main_c_112) rfl rfl (by decide +kernel)
  have eR := final_nullary (ReferenceIdeal.Hand.writes_tlOps1 (F := Ideal)) WR 114 (rest := (ReferenceIdeal.Hand.tlOps1 (F := Ideal)).drop 115) (wrest := ReferenceIdeal.Hand.wr_tlOps1.drop 115) (y := ReferenceIdeal.main_c_105) rfl rfl (by decide +kernel)
  rw [eK, eR]
  try rfl
theorem h115 : StableHlo.after (KernelIdeal.Tail.ks1 (F := Ideal)) WK (Proc.devRef .tc KernelIdeal.main_call27_v0) = StableHlo.after (ReferenceIdeal.Hand.tlOps1 (F := Ideal)) WR (Proc.devRef .tc ReferenceIdeal.main_call29_v0) :=
  by
  have eK := final_unary (KernelIdeal.Tail.writes_ks1 (F := Ideal)) WK 120 (rest := (KernelIdeal.Tail.ks1 (F := Ideal)).drop 121) (wrest := KernelIdeal.Tail.wr_ks1.drop 121) (y := KernelIdeal.main_call27_v0) (x := KernelIdeal.main_c_112) rfl rfl (by decide +kernel) (by decide +kernel)
  have eR := final_unary (ReferenceIdeal.Hand.writes_tlOps1 (F := Ideal)) WR 115 (rest := (ReferenceIdeal.Hand.tlOps1 (F := Ideal)).drop 116) (wrest := ReferenceIdeal.Hand.wr_tlOps1.drop 116) (y := ReferenceIdeal.main_call29_v0) (x := ReferenceIdeal.main_c_105) rfl rfl (by decide +kernel) (by decide +kernel)
  rw [eK, eR, h114 WK WR hP hLin hVal]
  try rfl
theorem h116 : StableHlo.after (KernelIdeal.Tail.ks1 (F := Ideal)) WK (Proc.devRef .tc KernelIdeal.main_call27_v1) = StableHlo.after (ReferenceIdeal.Hand.tlOps1 (F := Ideal)) WR (Proc.devRef .tc ReferenceIdeal.main_call29_v1) :=
  by
  have eK := final_unary (KernelIdeal.Tail.writes_ks1 (F := Ideal)) WK 121 (rest := (KernelIdeal.Tail.ks1 (F := Ideal)).drop 122) (wrest := KernelIdeal.Tail.wr_ks1.drop 122) (y := KernelIdeal.main_call27_v1) (x := KernelIdeal.main_call27_v0) rfl rfl (by decide +kernel) (by decide +kernel)
  have eR := final_unary (ReferenceIdeal.Hand.writes_tlOps1 (F := Ideal)) WR 116 (rest := (ReferenceIdeal.Hand.tlOps1 (F := Ideal)).drop 117) (wrest := ReferenceIdeal.Hand.wr_tlOps1.drop 117) (y := ReferenceIdeal.main_call29_v1) (x := ReferenceIdeal.main_call29_v0) rfl rfl (by decide +kernel) (by decide +kernel)
  rw [eK, eR, h115 WK WR hP hLin hVal]
  try rfl
theorem h117 : StableHlo.after (KernelIdeal.Tail.ks1 (F := Ideal)) WK (Proc.devRef .tc KernelIdeal.main_v279) = StableHlo.after (ReferenceIdeal.Hand.tlOps1 (F := Ideal)) WR (Proc.devRef .tc ReferenceIdeal.main_v292) :=
  by
  have eK := final_ternary (KernelIdeal.Tail.writes_ks1 (F := Ideal)) WK 122 (rest := (KernelIdeal.Tail.ks1 (F := Ideal)).drop 123) (wrest := KernelIdeal.Tail.wr_ks1.drop 123) (y := KernelIdeal.main_v279) (c := KernelIdeal.main_v277) (a := KernelIdeal.main_v271) (b := KernelIdeal.main_call27_v1) rfl rfl (by decide +kernel) (by decide +kernel) (by decide +kernel) (by decide +kernel)
  have eR := final_ternary (ReferenceIdeal.Hand.writes_tlOps1 (F := Ideal)) WR 117 (rest := (ReferenceIdeal.Hand.tlOps1 (F := Ideal)).drop 118) (wrest := ReferenceIdeal.Hand.wr_tlOps1.drop 118) (y := ReferenceIdeal.main_v292) (c := ReferenceIdeal.main_v290) (a := ReferenceIdeal.main_v284) (b := ReferenceIdeal.main_call29_v1) rfl rfl (by decide +kernel) (by decide +kernel) (by decide +kernel) (by decide +kernel)
  rw [eK, eR, h109 WK WR hP hLin hVal, h101 WK WR hP hLin hVal, h116 WK WR hP hLin hVal]
  try rfl
theorem h118 : StableHlo.after (KernelIdeal.Tail.ks1 (F := Ideal)) WK (Proc.devRef .tc KernelIdeal.main_cst_113) = StableHlo.after (ReferenceIdeal.Hand.tlOps1 (F := Ideal)) WR (Proc.devRef .tc ReferenceIdeal.main_cst_106) :=
  by
  have eK := final_nullary (KernelIdeal.Tail.writes_ks1 (F := Ideal)) WK 123 (rest := (KernelIdeal.Tail.ks1 (F := Ideal)).drop 124) (wrest := KernelIdeal.Tail.wr_ks1.drop 124) (y := KernelIdeal.main_cst_113) rfl rfl (by decide +kernel)
  have eR := final_nullary (ReferenceIdeal.Hand.writes_tlOps1 (F := Ideal)) WR 118 (rest := (ReferenceIdeal.Hand.tlOps1 (F := Ideal)).drop 119) (wrest := ReferenceIdeal.Hand.wr_tlOps1.drop 119) (y := ReferenceIdeal.main_cst_106) rfl rfl (by decide +kernel)
  rw [eK, eR]
  try rfl
theorem h119 : StableHlo.after (KernelIdeal.Tail.ks1 (F := Ideal)) WK (Proc.devRef .tc KernelIdeal.main_v280) = StableHlo.after (ReferenceIdeal.Hand.tlOps1 (F := Ideal)) WR (Proc.devRef .tc ReferenceIdeal.main_v293) :=
  by
  have eK := final_unary (KernelIdeal.Tail.writes_ks1 (F := Ideal)) WK 124 (rest := (KernelIdeal.Tail.ks1 (F := Ideal)).drop 125) (wrest := KernelIdeal.Tail.wr_ks1.drop 125) (y := KernelIdeal.main_v280) (x := KernelIdeal.main_cst_113) rfl rfl (by decide +kernel) (by decide +kernel)
  have eR := final_unary (ReferenceIdeal.Hand.writes_tlOps1 (F := Ideal)) WR 119 (rest := (ReferenceIdeal.Hand.tlOps1 (F := Ideal)).drop 120) (wrest := ReferenceIdeal.Hand.wr_tlOps1.drop 120) (y := ReferenceIdeal.main_v293) (x := ReferenceIdeal.main_cst_106) rfl rfl (by decide +kernel) (by decide +kernel)
  rw [eK, eR, h118 WK WR hP hLin hVal]
  try rfl
theorem h120 : StableHlo.after (KernelIdeal.Tail.ks1 (F := Ideal)) WK (Proc.devRef .tc KernelIdeal.main_v281) = StableHlo.after (ReferenceIdeal.Hand.tlOps1 (F := Ideal)) WR (Proc.devRef .tc ReferenceIdeal.main_v294) :=
  by
  have eK := final_unary (KernelIdeal.Tail.writes_ks1 (F := Ideal)) WK 125 (rest := (KernelIdeal.Tail.ks1 (F := Ideal)).drop 126) (wrest := KernelIdeal.Tail.wr_ks1.drop 126) (y := KernelIdeal.main_v281) (x := KernelIdeal.main_v277) rfl rfl (by decide +kernel) (by decide +kernel)
  have eR := final_unary (ReferenceIdeal.Hand.writes_tlOps1 (F := Ideal)) WR 120 (rest := (ReferenceIdeal.Hand.tlOps1 (F := Ideal)).drop 121) (wrest := ReferenceIdeal.Hand.wr_tlOps1.drop 121) (y := ReferenceIdeal.main_v294) (x := ReferenceIdeal.main_v290) rfl rfl (by decide +kernel) (by decide +kernel)
  rw [eK, eR, h109 WK WR hP hLin hVal]
  try rfl
theorem h121 : StableHlo.after (KernelIdeal.Tail.ks1 (F := Ideal)) WK (Proc.devRef .tc KernelIdeal.main_cst_114) = StableHlo.after (ReferenceIdeal.Hand.tlOps1 (F := Ideal)) WR (Proc.devRef .tc ReferenceIdeal.main_cst_107) :=
  by
  have eK := final_nullary (KernelIdeal.Tail.writes_ks1 (F := Ideal)) WK 126 (rest := (KernelIdeal.Tail.ks1 (F := Ideal)).drop 127) (wrest := KernelIdeal.Tail.wr_ks1.drop 127) (y := KernelIdeal.main_cst_114) rfl rfl (by decide +kernel)
  have eR := final_nullary (ReferenceIdeal.Hand.writes_tlOps1 (F := Ideal)) WR 121 (rest := (ReferenceIdeal.Hand.tlOps1 (F := Ideal)).drop 122) (wrest := ReferenceIdeal.Hand.wr_tlOps1.drop 122) (y := ReferenceIdeal.main_cst_107) rfl rfl (by decide +kernel)
  rw [eK, eR]
  try rfl
theorem h122 : StableHlo.after (KernelIdeal.Tail.ks1 (F := Ideal)) WK (Proc.devRef .tc KernelIdeal.main_call28_v0) = StableHlo.after (ReferenceIdeal.Hand.tlOps1 (F := Ideal)) WR (Proc.devRef .tc ReferenceIdeal.main_call30_v0) :=
  by
  have eK := final_unary (KernelIdeal.Tail.writes_ks1 (F := Ideal)) WK 127 (rest := (KernelIdeal.Tail.ks1 (F := Ideal)).drop 128) (wrest := KernelIdeal.Tail.wr_ks1.drop 128) (y := KernelIdeal.main_call28_v0) (x := KernelIdeal.main_cst_114) rfl rfl (by decide +kernel) (by decide +kernel)
  have eR := final_unary (ReferenceIdeal.Hand.writes_tlOps1 (F := Ideal)) WR 122 (rest := (ReferenceIdeal.Hand.tlOps1 (F := Ideal)).drop 123) (wrest := ReferenceIdeal.Hand.wr_tlOps1.drop 123) (y := ReferenceIdeal.main_call30_v0) (x := ReferenceIdeal.main_cst_107) rfl rfl (by decide +kernel) (by decide +kernel)
  rw [eK, eR, h121 WK WR hP hLin hVal]
  try rfl
theorem h123 : StableHlo.after (KernelIdeal.Tail.ks1 (F := Ideal)) WK (Proc.devRef .tc KernelIdeal.main_call28_v1) = StableHlo.after (ReferenceIdeal.Hand.tlOps1 (F := Ideal)) WR (Proc.devRef .tc ReferenceIdeal.main_call30_v1) :=
  by
  have eK := final_unary (KernelIdeal.Tail.writes_ks1 (F := Ideal)) WK 128 (rest := (KernelIdeal.Tail.ks1 (F := Ideal)).drop 129) (wrest := KernelIdeal.Tail.wr_ks1.drop 129) (y := KernelIdeal.main_call28_v1) (x := KernelIdeal.main_v281) rfl rfl (by decide +kernel) (by decide +kernel)
  have eR := final_unary (ReferenceIdeal.Hand.writes_tlOps1 (F := Ideal)) WR 123 (rest := (ReferenceIdeal.Hand.tlOps1 (F := Ideal)).drop 124) (wrest := ReferenceIdeal.Hand.wr_tlOps1.drop 124) (y := ReferenceIdeal.main_call30_v1) (x := ReferenceIdeal.main_v294) rfl rfl (by decide +kernel) (by decide +kernel)
  rw [eK, eR, h120 WK WR hP hLin hVal]
  try rfl
theorem h124 : StableHlo.after (KernelIdeal.Tail.ks1 (F := Ideal)) WK (Proc.devRef .tc KernelIdeal.main_call28_v2) = StableHlo.after (ReferenceIdeal.Hand.tlOps1 (F := Ideal)) WR (Proc.devRef .tc ReferenceIdeal.main_call30_v2) :=
  by
  have eK := final_unary (KernelIdeal.Tail.writes_ks1 (F := Ideal)) WK 129 (rest := (KernelIdeal.Tail.ks1 (F := Ideal)).drop 130) (wrest := KernelIdeal.Tail.wr_ks1.drop 130) (y := KernelIdeal.main_call28_v2) (x := KernelIdeal.main_call28_v0) rfl rfl (by decide +kernel) (by decide +kernel)
  have eR := final_unary (ReferenceIdeal.Hand.writes_tlOps1 (F := Ideal)) WR 124 (rest := (ReferenceIdeal.Hand.tlOps1 (F := Ideal)).drop 125) (wrest := ReferenceIdeal.Hand.wr_tlOps1.drop 125) (y := ReferenceIdeal.main_call30_v2) (x := ReferenceIdeal.main_call30_v0) rfl rfl (by decide +kernel) (by decide +kernel)
  rw [eK, eR, h122 WK WR hP hLin hVal]
  try rfl
theorem h125 : StableHlo.after (KernelIdeal.Tail.ks1 (F := Ideal)) WK (Proc.devRef .tc KernelIdeal.main_v282) = StableHlo.after (ReferenceIdeal.Hand.tlOps1 (F := Ideal)) WR (Proc.devRef .tc ReferenceIdeal.main_v295) :=
  by
  have eK := final_ternary (KernelIdeal.Tail.writes_ks1 (F := Ideal)) WK 130 (rest := (KernelIdeal.Tail.ks1 (F := Ideal)).drop 131) (wrest := KernelIdeal.Tail.wr_ks1.drop 131) (y := KernelIdeal.main_v282) (c := KernelIdeal.main_call28_v1) (a := KernelIdeal.main_v27) (b := KernelIdeal.main_call28_v2) rfl rfl (by decide +kernel) (by decide +kernel) (by decide +kernel) (by decide +kernel)
  have eR := final_ternary (ReferenceIdeal.Hand.writes_tlOps1 (F := Ideal)) WR 125 (rest := (ReferenceIdeal.Hand.tlOps1 (F := Ideal)).drop 126) (wrest := ReferenceIdeal.Hand.wr_tlOps1.drop 126) (y := ReferenceIdeal.main_v295) (c := ReferenceIdeal.main_call30_v1) (a := ReferenceIdeal.main_v189) (b := ReferenceIdeal.main_call30_v2) rfl rfl (by decide +kernel) (by decide +kernel) (by decide +kernel) (by decide +kernel)
  rw [eK, eR, h123 WK WR hP hLin hVal, hP, h124 WK WR hP hLin hVal]
  try rfl
theorem h126 : StableHlo.after (KernelIdeal.Tail.ks1 (F := Ideal)) WK (Proc.devRef .tc KernelIdeal.main_c_115) = StableHlo.after (ReferenceIdeal.Hand.tlOps1 (F := Ideal)) WR (Proc.devRef .tc ReferenceIdeal.main_c_108) :=
  by
  have eK := final_nullary (KernelIdeal.Tail.writes_ks1 (F := Ideal)) WK 131 (rest := (KernelIdeal.Tail.ks1 (F := Ideal)).drop 132) (wrest := KernelIdeal.Tail.wr_ks1.drop 132) (y := KernelIdeal.main_c_115) rfl rfl (by decide +kernel)
  have eR := final_nullary (ReferenceIdeal.Hand.writes_tlOps1 (F := Ideal)) WR 126 (rest := (ReferenceIdeal.Hand.tlOps1 (F := Ideal)).drop 127) (wrest := ReferenceIdeal.Hand.wr_tlOps1.drop 127) (y := ReferenceIdeal.main_c_108) rfl rfl (by decide +kernel)
  rw [eK, eR]
  try rfl
theorem h127 : StableHlo.after (KernelIdeal.Tail.ks1 (F := Ideal)) WK (Proc.devRef .tc KernelIdeal.main_v283) = StableHlo.after (ReferenceIdeal.Hand.tlOps1 (F := Ideal)) WR (Proc.devRef .tc ReferenceIdeal.main_v296) :=
  by
  have eK := final_unary (KernelIdeal.Tail.writes_ks1 (F := Ideal)) WK 132 (rest := (KernelIdeal.Tail.ks1 (F := Ideal)).drop 133) (wrest := KernelIdeal.Tail.wr_ks1.drop 133) (y := KernelIdeal.main_v283) (x := KernelIdeal.main_c_115) rfl rfl (by decide +kernel) (by decide +kernel)
  have eR := final_unary (ReferenceIdeal.Hand.writes_tlOps1 (F := Ideal)) WR 127 (rest := (ReferenceIdeal.Hand.tlOps1 (F := Ideal)).drop 128) (wrest := ReferenceIdeal.Hand.wr_tlOps1.drop 128) (y := ReferenceIdeal.main_v296) (x := ReferenceIdeal.main_c_108) rfl rfl (by decide +kernel) (by decide +kernel)
  rw [eK, eR, h126 WK WR hP hLin hVal]
  try rfl
theorem h128 : StableHlo.after (KernelIdeal.Tail.ks1 (F := Ideal)) WK (Proc.devRef .tc KernelIdeal.main_v284) = StableHlo.after (ReferenceIdeal.Hand.tlOps1 (F := Ideal)) WR (Proc.devRef .tc ReferenceIdeal.main_v297) :=
  by
  have eK := final_binary (KernelIdeal.Tail.writes_ks1 (F := Ideal)) WK 133 (rest := (KernelIdeal.Tail.ks1 (F := Ideal)).drop 134) (wrest := KernelIdeal.Tail.wr_ks1.drop 134) (y := KernelIdeal.main_v284) (a := KernelIdeal.main_v278) (b := KernelIdeal.main_v283) rfl rfl (by decide +kernel) (by decide +kernel) (by decide +kernel)
  have eR := final_binary (ReferenceIdeal.Hand.writes_tlOps1 (F := Ideal)) WR 128 (rest := (ReferenceIdeal.Hand.tlOps1 (F := Ideal)).drop 129) (wrest := ReferenceIdeal.Hand.wr_tlOps1.drop 129) (y := ReferenceIdeal.main_v297) (a := ReferenceIdeal.main_v291) (b := ReferenceIdeal.main_v296) rfl rfl (by decide +kernel) (by decide +kernel) (by decide +kernel)
  rw [eK, eR, h113 WK WR hP hLin hVal, h127 WK WR hP hLin hVal]
  try rfl
theorem h129 : StableHlo.after (KernelIdeal.Tail.ks1 (F := Ideal)) WK (Proc.devRef .tc KernelIdeal.main_c_116) = StableHlo.after (ReferenceIdeal.Hand.tlOps1 (F := Ideal)) WR (Proc.devRef .tc ReferenceIdeal.main_c_109) :=
  by
  have eK := final_nullary (KernelIdeal.Tail.writes_ks1 (F := Ideal)) WK 134 (rest := (KernelIdeal.Tail.ks1 (F := Ideal)).drop 135) (wrest := KernelIdeal.Tail.wr_ks1.drop 135) (y := KernelIdeal.main_c_116) rfl rfl (by decide +kernel)
  have eR := final_nullary (ReferenceIdeal.Hand.writes_tlOps1 (F := Ideal)) WR 129 (rest := (ReferenceIdeal.Hand.tlOps1 (F := Ideal)).drop 130) (wrest := ReferenceIdeal.Hand.wr_tlOps1.drop 130) (y := ReferenceIdeal.main_c_109) rfl rfl (by decide +kernel)
  rw [eK, eR]
  try rfl
theorem h130 : StableHlo.after (KernelIdeal.Tail.ks1 (F := Ideal)) WK (Proc.devRef .tc KernelIdeal.main_v285) = StableHlo.after (ReferenceIdeal.Hand.tlOps1 (F := Ideal)) WR (Proc.devRef .tc ReferenceIdeal.main_v298) :=
  by
  have eK := final_unary (KernelIdeal.Tail.writes_ks1 (F := Ideal)) WK 135 (rest := (KernelIdeal.Tail.ks1 (F := Ideal)).drop 136) (wrest := KernelIdeal.Tail.wr_ks1.drop 136) (y := KernelIdeal.main_v285) (x := KernelIdeal.main_c_116) rfl rfl (by decide +kernel) (by decide +kernel)
  have eR := final_unary (ReferenceIdeal.Hand.writes_tlOps1 (F := Ideal)) WR 130 (rest := (ReferenceIdeal.Hand.tlOps1 (F := Ideal)).drop 131) (wrest := ReferenceIdeal.Hand.wr_tlOps1.drop 131) (y := ReferenceIdeal.main_v298) (x := ReferenceIdeal.main_c_109) rfl rfl (by decide +kernel) (by decide +kernel)
  rw [eK, eR, h129 WK WR hP hLin hVal]
  try rfl
theorem h131 : StableHlo.after (KernelIdeal.Tail.ks1 (F := Ideal)) WK (Proc.devRef .tc KernelIdeal.main_v286) = StableHlo.after (ReferenceIdeal.Hand.tlOps1 (F := Ideal)) WR (Proc.devRef .tc ReferenceIdeal.main_v299) :=
  by
  have eK := final_binary (KernelIdeal.Tail.writes_ks1 (F := Ideal)) WK 136 (rest := (KernelIdeal.Tail.ks1 (F := Ideal)).drop 137) (wrest := KernelIdeal.Tail.wr_ks1.drop 137) (y := KernelIdeal.main_v286) (a := KernelIdeal.main_v278) (b := KernelIdeal.main_v285) rfl rfl (by decide +kernel) (by decide +kernel) (by decide +kernel)
  have eR := final_binary (ReferenceIdeal.Hand.writes_tlOps1 (F := Ideal)) WR 131 (rest := (ReferenceIdeal.Hand.tlOps1 (F := Ideal)).drop 132) (wrest := ReferenceIdeal.Hand.wr_tlOps1.drop 132) (y := ReferenceIdeal.main_v299) (a := ReferenceIdeal.main_v291) (b := ReferenceIdeal.main_v298) rfl rfl (by decide +kernel) (by decide +kernel) (by decide +kernel)
  rw [eK, eR, h113 WK WR hP hLin hVal, h130 WK WR hP hLin hVal]
  try rfl
theorem h132 : StableHlo.after (KernelIdeal.Tail.ks1 (F := Ideal)) WK (Proc.devRef .tc KernelIdeal.main_v287) = StableHlo.after (ReferenceIdeal.Hand.tlOps1 (F := Ideal)) WR (Proc.devRef .tc ReferenceIdeal.main_v300) :=
  by
  have eK := final_ternary (KernelIdeal.Tail.writes_ks1 (F := Ideal)) WK 137 (rest := (KernelIdeal.Tail.ks1 (F := Ideal)).drop 138) (wrest := KernelIdeal.Tail.wr_ks1.drop 138) (y := KernelIdeal.main_v287) (c := KernelIdeal.main_v284) (a := KernelIdeal.main_v286) (b := KernelIdeal.main_v278) rfl rfl (by decide +kernel) (by decide +kernel) (by decide +kernel) (by decide +kernel)
  have eR := final_ternary (ReferenceIdeal.Hand.writes_tlOps1 (F := Ideal)) WR 132 (rest := (ReferenceIdeal.Hand.tlOps1 (F := Ideal)).drop 133) (wrest := ReferenceIdeal.Hand.wr_tlOps1.drop 133) (y := ReferenceIdeal.main_v300) (c := ReferenceIdeal.main_v297) (a := ReferenceIdeal.main_v299) (b := ReferenceIdeal.main_v291) rfl rfl (by decide +kernel) (by decide +kernel) (by decide +kernel) (by decide +kernel)
  rw [eK, eR, h128 WK WR hP hLin hVal, h131 WK WR hP hLin hVal, h113 WK WR hP hLin hVal]
  try rfl
theorem h133 : StableHlo.after (KernelIdeal.Tail.ks1 (F := Ideal)) WK (Proc.devRef .tc KernelIdeal.main_c_117) = StableHlo.after (ReferenceIdeal.Hand.tlOps1 (F := Ideal)) WR (Proc.devRef .tc ReferenceIdeal.main_c_110) :=
  by
  have eK := final_nullary (KernelIdeal.Tail.writes_ks1 (F := Ideal)) WK 138 (rest := (KernelIdeal.Tail.ks1 (F := Ideal)).drop 139) (wrest := KernelIdeal.Tail.wr_ks1.drop 139) (y := KernelIdeal.main_c_117) rfl rfl (by decide +kernel)
  have eR := final_nullary (ReferenceIdeal.Hand.writes_tlOps1 (F := Ideal)) WR 133 (rest := (ReferenceIdeal.Hand.tlOps1 (F := Ideal)).drop 134) (wrest := ReferenceIdeal.Hand.wr_tlOps1.drop 134) (y := ReferenceIdeal.main_c_110) rfl rfl (by decide +kernel)
  rw [eK, eR]
  try rfl
theorem h134 : StableHlo.after (KernelIdeal.Tail.ks1 (F := Ideal)) WK (Proc.devRef .tc KernelIdeal.main_v288) = StableHlo.after (ReferenceIdeal.Hand.tlOps1 (F := Ideal)) WR (Proc.devRef .tc ReferenceIdeal.main_v301) :=
  by
  have eK := final_unary (KernelIdeal.Tail.writes_ks1 (F := Ideal)) WK 139 (rest := (KernelIdeal.Tail.ks1 (F := Ideal)).drop 140) (wrest := KernelIdeal.Tail.wr_ks1.drop 140) (y := KernelIdeal.main_v288) (x := KernelIdeal.main_c_117) rfl rfl (by decide +kernel) (by decide +kernel)
  have eR := final_unary (ReferenceIdeal.Hand.writes_tlOps1 (F := Ideal)) WR 134 (rest := (ReferenceIdeal.Hand.tlOps1 (F := Ideal)).drop 135) (wrest := ReferenceIdeal.Hand.wr_tlOps1.drop 135) (y := ReferenceIdeal.main_v301) (x := ReferenceIdeal.main_c_110) rfl rfl (by decide +kernel) (by decide +kernel)
  rw [eK, eR, h133 WK WR hP hLin hVal]
  try rfl
theorem h135 : StableHlo.after (KernelIdeal.Tail.ks1 (F := Ideal)) WK (Proc.devRef .tc KernelIdeal.main_v289) = StableHlo.after (ReferenceIdeal.Hand.tlOps1 (F := Ideal)) WR (Proc.devRef .tc ReferenceIdeal.main_v302) :=
  by
  have eK := final_binary (KernelIdeal.Tail.writes_ks1 (F := Ideal)) WK 140 (rest := (KernelIdeal.Tail.ks1 (F := Ideal)).drop 141) (wrest := KernelIdeal.Tail.wr_ks1.drop 141) (y := KernelIdeal.main_v289) (a := KernelIdeal.main_v279) (b := KernelIdeal.main_v288) rfl rfl (by decide +kernel) (by decide +kernel) (by decide +kernel)
  have eR := final_binary (ReferenceIdeal.Hand.writes_tlOps1 (F := Ideal)) WR 135 (rest := (ReferenceIdeal.Hand.tlOps1 (F := Ideal)).drop 136) (wrest := ReferenceIdeal.Hand.wr_tlOps1.drop 136) (y := ReferenceIdeal.main_v302) (a := ReferenceIdeal.main_v292) (b := ReferenceIdeal.main_v301) rfl rfl (by decide +kernel) (by decide +kernel) (by decide +kernel)
  rw [eK, eR, h117 WK WR hP hLin hVal, h134 WK WR hP hLin hVal]
  try rfl
theorem h136 : StableHlo.after (KernelIdeal.Tail.ks1 (F := Ideal)) WK (Proc.devRef .tc KernelIdeal.main_c_118) = StableHlo.after (ReferenceIdeal.Hand.tlOps1 (F := Ideal)) WR (Proc.devRef .tc ReferenceIdeal.main_c_111) :=
  by
  have eK := final_nullary (KernelIdeal.Tail.writes_ks1 (F := Ideal)) WK 141 (rest := (KernelIdeal.Tail.ks1 (F := Ideal)).drop 142) (wrest := KernelIdeal.Tail.wr_ks1.drop 142) (y := KernelIdeal.main_c_118) rfl rfl (by decide +kernel)
  have eR := final_nullary (ReferenceIdeal.Hand.writes_tlOps1 (F := Ideal)) WR 136 (rest := (ReferenceIdeal.Hand.tlOps1 (F := Ideal)).drop 137) (wrest := ReferenceIdeal.Hand.wr_tlOps1.drop 137) (y := ReferenceIdeal.main_c_111) rfl rfl (by decide +kernel)
  rw [eK, eR]
  try rfl
theorem h137 : StableHlo.after (KernelIdeal.Tail.ks1 (F := Ideal)) WK (Proc.devRef .tc KernelIdeal.main_v290) = StableHlo.after (ReferenceIdeal.Hand.tlOps1 (F := Ideal)) WR (Proc.devRef .tc ReferenceIdeal.main_v303) :=
  by
  have eK := final_unary (KernelIdeal.Tail.writes_ks1 (F := Ideal)) WK 142 (rest := (KernelIdeal.Tail.ks1 (F := Ideal)).drop 143) (wrest := KernelIdeal.Tail.wr_ks1.drop 143) (y := KernelIdeal.main_v290) (x := KernelIdeal.main_c_118) rfl rfl (by decide +kernel) (by decide +kernel)
  have eR := final_unary (ReferenceIdeal.Hand.writes_tlOps1 (F := Ideal)) WR 137 (rest := (ReferenceIdeal.Hand.tlOps1 (F := Ideal)).drop 138) (wrest := ReferenceIdeal.Hand.wr_tlOps1.drop 138) (y := ReferenceIdeal.main_v303) (x := ReferenceIdeal.main_c_111) rfl rfl (by decide +kernel) (by decide +kernel)
  rw [eK, eR, h136 WK WR hP hLin hVal]
  try rfl
theorem h138 : StableHlo.after (KernelIdeal.Tail.ks1 (F := Ideal)) WK (Proc.devRef .tc KernelIdeal.main_v291) = StableHlo.after (ReferenceIdeal.Hand.tlOps1 (F := Ideal)) WR (Proc.devRef .tc ReferenceIdeal.main_v304) :=
  by
  have eK := final_binary (KernelIdeal.Tail.writes_ks1 (F := Ideal)) WK 143 (rest := (KernelIdeal.Tail.ks1 (F := Ideal)).drop 144) (wrest := KernelIdeal.Tail.wr_ks1.drop 144) (y := KernelIdeal.main_v291) (a := KernelIdeal.main_v279) (b := KernelIdeal.main_v290) rfl rfl (by decide +kernel) (by decide +kernel) (by decide +kernel)
  have eR := final_binary (ReferenceIdeal.Hand.writes_tlOps1 (F := Ideal)) WR 138 (rest := (ReferenceIdeal.Hand.tlOps1 (F := Ideal)).drop 139) (wrest := ReferenceIdeal.Hand.wr_tlOps1.drop 139) (y := ReferenceIdeal.main_v304) (a := ReferenceIdeal.main_v292) (b := ReferenceIdeal.main_v303) rfl rfl (by decide +kernel) (by decide +kernel) (by decide +kernel)
  rw [eK, eR, h117 WK WR hP hLin hVal, h137 WK WR hP hLin hVal]
  try rfl
theorem h139 : StableHlo.after (KernelIdeal.Tail.ks1 (F := Ideal)) WK (Proc.devRef .tc KernelIdeal.main_v292) = StableHlo.after (ReferenceIdeal.Hand.tlOps1 (F := Ideal)) WR (Proc.devRef .tc ReferenceIdeal.main_v305) :=
  by
  have eK := final_ternary (KernelIdeal.Tail.writes_ks1 (F := Ideal)) WK 144 (rest := (KernelIdeal.Tail.ks1 (F := Ideal)).drop 145) (wrest := KernelIdeal.Tail.wr_ks1.drop 145) (y := KernelIdeal.main_v292) (c := KernelIdeal.main_v289) (a := KernelIdeal.main_v291) (b := KernelIdeal.main_v279) rfl rfl (by decide +kernel) (by decide +kernel) (by decide +kernel) (by decide +kernel)
  have eR := final_ternary (ReferenceIdeal.Hand.writes_tlOps1 (F := Ideal)) WR 139 (rest := (ReferenceIdeal.Hand.tlOps1 (F := Ideal)).drop 140) (wrest := ReferenceIdeal.Hand.wr_tlOps1.drop 140) (y := ReferenceIdeal.main_v305) (c := ReferenceIdeal.main_v302) (a := ReferenceIdeal.main_v304) (b := ReferenceIdeal.main_v292) rfl rfl (by decide +kernel) (by decide +kernel) (by decide +kernel) (by decide +kernel)
  rw [eK, eR, h135 WK WR hP hLin hVal, h138 WK WR hP hLin hVal, h117 WK WR hP hLin hVal]
  try rfl
theorem h140 : StableHlo.after (KernelIdeal.Tail.ks1 (F := Ideal)) WK (Proc.devRef .tc KernelIdeal.main_v293) = StableHlo.after (ReferenceIdeal.Hand.tlOps1 (F := Ideal)) WR (Proc.devRef .tc ReferenceIdeal.main_v306) :=
  by
  have eK := final_unary (KernelIdeal.Tail.writes_ks1 (F := Ideal)) WK 145 (rest := (KernelIdeal.Tail.ks1 (F := Ideal)).drop 146) (wrest := KernelIdeal.Tail.wr_ks1.drop 146) (y := KernelIdeal.main_v293) (x := KernelIdeal.main_v287) rfl rfl (by decide +kernel) (by decide +kernel)
  have eR := final_unary (ReferenceIdeal.Hand.writes_tlOps1 (F := Ideal)) WR 140 (rest := (ReferenceIdeal.Hand.tlOps1 (F := Ideal)).drop 141) (wrest := ReferenceIdeal.Hand.wr_tlOps1.drop 141) (y := ReferenceIdeal.main_v306) (x := ReferenceIdeal.main_v300) rfl rfl (by decide +kernel) (by decide +kernel)
  rw [eK, eR, h132 WK WR hP hLin hVal]
  try rfl
theorem h141 : StableHlo.after (KernelIdeal.Tail.ks1 (F := Ideal)) WK (Proc.devRef .tc KernelIdeal.main_v294) = StableHlo.after (ReferenceIdeal.Hand.tlOps1 (F := Ideal)) WR (Proc.devRef .tc ReferenceIdeal.main_v307) :=
  by
  have eK := final_unary (KernelIdeal.Tail.writes_ks1 (F := Ideal)) WK 146 (rest := (KernelIdeal.Tail.ks1 (F := Ideal)).drop 147) (wrest := KernelIdeal.Tail.wr_ks1.drop 147) (y := KernelIdeal.main_v294) (x := KernelIdeal.main_v292) rfl rfl (by decide +kernel) (by decide +kernel)
  have eR := final_unary (ReferenceIdeal.Hand.writes_tlOps1 (F := Ideal)) WR 141 (rest := (ReferenceIdeal.Hand.tlOps1 (F := Ideal)).drop 142) (wrest := ReferenceIdeal.Hand.wr_tlOps1.drop 142) (y := ReferenceIdeal.main_v307) (x := ReferenceIdeal.main_v305) rfl rfl (by decide +kernel) (by decide +kernel)
  rw [eK, eR, h139 WK WR hP hLin hVal]
  try rfl
theorem h142 : StableHlo.after (KernelIdeal.Tail.ks1 (F := Ideal)) WK (Proc.devRef .tc KernelIdeal.main_v295) = StableHlo.after (ReferenceIdeal.Hand.tlOps1 (F := Ideal)) WR (Proc.devRef .tc ReferenceIdeal.main_v308) :=
  by
  have eK := final_binary (KernelIdeal.Tail.writes_ks1 (F := Ideal)) WK 147 (rest := (KernelIdeal.Tail.ks1 (F := Ideal)).drop 148) (wrest := KernelIdeal.Tail.wr_ks1.drop 148) (y := KernelIdeal.main_v295) (a := KernelIdeal.main_v293) (b := KernelIdeal.main_v294) rfl rfl (by decide +kernel) (by decide +kernel) (by decide +kernel)
  have eR := final_binary (ReferenceIdeal.Hand.writes_tlOps1 (F := Ideal)) WR 142 (rest := (ReferenceIdeal.Hand.tlOps1 (F := Ideal)).drop 143) (wrest := ReferenceIdeal.Hand.wr_tlOps1.drop 143) (y := ReferenceIdeal.main_v308) (a := ReferenceIdeal.main_v306) (b := ReferenceIdeal.main_v307) rfl rfl (by decide +kernel) (by decide +kernel) (by decide +kernel)
  rw [eK, eR, h140 WK WR hP hLin hVal, h141 WK WR hP hLin hVal]
  try rfl
theorem h143 : StableHlo.after (KernelIdeal.Tail.ks1 (F := Ideal)) WK (Proc.devRef .tc KernelIdeal.main_v296) = StableHlo.after (ReferenceIdeal.Hand.tlOps1 (F := Ideal)) WR (Proc.devRef .tc ReferenceIdeal.main_v309) :=
  by
  have eK := final_ternary (KernelIdeal.Tail.writes_ks1 (F := Ideal)) WK 148 (rest := (KernelIdeal.Tail.ks1 (F := Ideal)).drop 149) (wrest := KernelIdeal.Tail.wr_ks1.drop 149) (y := KernelIdeal.main_v296) (c := KernelIdeal.main_v280) (a := KernelIdeal.main_v295) (b := KernelIdeal.main_v282) rfl rfl (by decide +kernel) (by decide +kernel) (by decide +kernel) (by decide +kernel)
  have eR := final_ternary (ReferenceIdeal.Hand.writes_tlOps1 (F := Ideal)) WR 143 (rest := (ReferenceIdeal.Hand.tlOps1 (F := Ideal)).drop 144) (wrest := ReferenceIdeal.Hand.wr_tlOps1.drop 144) (y := ReferenceIdeal.main_v309) (c := ReferenceIdeal.main_v293) (a := ReferenceIdeal.main_v308) (b := ReferenceIdeal.main_v295) rfl rfl (by decide +kernel) (by decide +kernel) (by decide +kernel) (by decide +kernel)
  rw [eK, eR, h119 WK WR hP hLin hVal, h142 WK WR hP hLin hVal, h125 WK WR hP hLin hVal]
  try rfl
theorem h144 : StableHlo.after (KernelIdeal.Tail.ks1 (F := Ideal)) WK (Proc.devRef .tc KernelIdeal.main_v297) = StableHlo.after (ReferenceIdeal.Hand.tlOps1 (F := Ideal)) WR (Proc.devRef .tc ReferenceIdeal.main_v310) :=
  by
  have eK := final_unary (KernelIdeal.Tail.writes_ks1 (F := Ideal)) WK 149 (rest := (KernelIdeal.Tail.ks1 (F := Ideal)).drop 150) (wrest := KernelIdeal.Tail.wr_ks1.drop 150) (y := KernelIdeal.main_v297) (x := KernelIdeal.main_v296) rfl rfl (by decide +kernel) (by decide +kernel)
  have eR := final_unary (ReferenceIdeal.Hand.writes_tlOps1 (F := Ideal)) WR 144 (rest := (ReferenceIdeal.Hand.tlOps1 (F := Ideal)).drop 145) (wrest := ReferenceIdeal.Hand.wr_tlOps1.drop 145) (y := ReferenceIdeal.main_v310) (x := ReferenceIdeal.main_v309) rfl rfl (by decide +kernel) (by decide +kernel)
  rw [eK, eR, h143 WK WR hP hLin hVal]
  try rfl
theorem h145 : StableHlo.after (KernelIdeal.Tail.ks1 (F := Ideal)) WK (Proc.devRef .tc KernelIdeal.main_v298) = StableHlo.after (ReferenceIdeal.Hand.tlOps1 (F := Ideal)) WR (Proc.devRef .tc ReferenceIdeal.main_v311) :=
  by
  have eK := final_unary (KernelIdeal.Tail.writes_ks1 (F := Ideal)) WK 150 (rest := (KernelIdeal.Tail.ks1 (F := Ideal)).drop 151) (wrest := KernelIdeal.Tail.wr_ks1.drop 151) (y := KernelIdeal.main_v298) (x := KernelIdeal.main_v277) rfl rfl (by decide +kernel) (by decide +kernel)
  have eR := final_unary (ReferenceIdeal.Hand.writes_tlOps1 (F := Ideal)) WR 145 (rest := (ReferenceIdeal.Hand.tlOps1 (F := Ideal)).drop 146) (wrest := ReferenceIdeal.Hand.wr_tlOps1.drop 146) (y := ReferenceIdeal.main_v311) (x := ReferenceIdeal.main_v290) rfl rfl (by decide +kernel) (by decide +kernel)
  rw [eK, eR, h109 WK WR hP hLin hVal]
  try rfl
theorem h146 : StableHlo.after (KernelIdeal.Tail.ks1 (F := Ideal)) WK (Proc.devRef .tc KernelIdeal.main_c_119) = StableHlo.after (ReferenceIdeal.Hand.tlOps1 (F := Ideal)) WR (Proc.devRef .tc ReferenceIdeal.main_c_112) :=
  by
  have eK := final_nullary (KernelIdeal.Tail.writes_ks1 (F := Ideal)) WK 151 (rest := (KernelIdeal.Tail.ks1 (F := Ideal)).drop 152) (wrest := KernelIdeal.Tail.wr_ks1.drop 152) (y := KernelIdeal.main_c_119) rfl rfl (by decide +kernel)
  have eR := final_nullary (ReferenceIdeal.Hand.writes_tlOps1 (F := Ideal)) WR 146 (rest := (ReferenceIdeal.Hand.tlOps1 (F := Ideal)).drop 147) (wrest := ReferenceIdeal.Hand.wr_tlOps1.drop 147) (y := ReferenceIdeal.main_c_112) rfl rfl (by decide +kernel)
  rw [eK, eR]
  try rfl
theorem h147 : StableHlo.after (KernelIdeal.Tail.ks1 (F := Ideal)) WK (Proc.devRef .tc KernelIdeal.main_v299) = StableHlo.after (ReferenceIdeal.Hand.tlOps1 (F := Ideal)) WR (Proc.devRef .tc ReferenceIdeal.main_v312) :=
  by
  have eK := final_unary (KernelIdeal.Tail.writes_ks1 (F := Ideal)) WK 152 (rest := (KernelIdeal.Tail.ks1 (F := Ideal)).drop 153) (wrest := KernelIdeal.Tail.wr_ks1.drop 153) (y := KernelIdeal.main_v299) (x := KernelIdeal.main_c_119) rfl rfl (by decide +kernel) (by decide +kernel)
  have eR := final_unary (ReferenceIdeal.Hand.writes_tlOps1 (F := Ideal)) WR 147 (rest := (ReferenceIdeal.Hand.tlOps1 (F := Ideal)).drop 148) (wrest := ReferenceIdeal.Hand.wr_tlOps1.drop 148) (y := ReferenceIdeal.main_v312) (x := ReferenceIdeal.main_c_112) rfl rfl (by decide +kernel) (by decide +kernel)
  rw [eK, eR, h146 WK WR hP hLin hVal]
  try rfl
theorem h148 : StableHlo.after (KernelIdeal.Tail.ks1 (F := Ideal)) WK (Proc.devRef .tc KernelIdeal.main_v300) = StableHlo.after (ReferenceIdeal.Hand.tlOps1 (F := Ideal)) WR (Proc.devRef .tc ReferenceIdeal.main_v313) :=
  by
  have eK := final_unary (KernelIdeal.Tail.writes_ks1 (F := Ideal)) WK 153 (rest := (KernelIdeal.Tail.ks1 (F := Ideal)).drop 154) (wrest := KernelIdeal.Tail.wr_ks1.drop 154) (y := KernelIdeal.main_v300) (x := KernelIdeal.main_v278) rfl rfl (by decide +kernel) (by decide +kernel)
  have eR := final_unary (ReferenceIdeal.Hand.writes_tlOps1 (F := Ideal)) WR 148 (rest := (ReferenceIdeal.Hand.tlOps1 (F := Ideal)).drop 149) (wrest := ReferenceIdeal.Hand.wr_tlOps1.drop 149) (y := ReferenceIdeal.main_v313) (x := ReferenceIdeal.main_v291) rfl rfl (by decide +kernel) (by decide +kernel)
  rw [eK, eR, h113 WK WR hP hLin hVal]
  try rfl
theorem h149 : StableHlo.after (KernelIdeal.Tail.ks1 (F := Ideal)) WK (Proc.devRef .tc KernelIdeal.main_v301) = StableHlo.after (ReferenceIdeal.Hand.tlOps1 (F := Ideal)) WR (Proc.devRef .tc ReferenceIdeal.main_v314) :=
  by
  have eK := final_ternary (KernelIdeal.Tail.writes_ks1 (F := Ideal)) WK 154 (rest := (KernelIdeal.Tail.ks1 (F := Ideal)).drop 155) (wrest := KernelIdeal.Tail.wr_ks1.drop 155) (y := KernelIdeal.main_v301) (c := KernelIdeal.main_v299) (a := KernelIdeal.main_v300) (b := KernelIdeal.main_v298) rfl rfl (by decide +kernel) (by decide +kernel) (by decide +kernel) (by decide +kernel)
  have eR := final_ternary (ReferenceIdeal.Hand.writes_tlOps1 (F := Ideal)) WR 149 (rest := (ReferenceIdeal.Hand.tlOps1 (F := Ideal)).drop 150) (wrest := ReferenceIdeal.Hand.wr_tlOps1.drop 150) (y := ReferenceIdeal.main_v314) (c := ReferenceIdeal.main_v312) (a := ReferenceIdeal.main_v313) (b := ReferenceIdeal.main_v311) rfl rfl (by decide +kernel) (by decide +kernel) (by decide +kernel) (by decide +kernel)
  rw [eK, eR, h147 WK WR hP hLin hVal, h148 WK WR hP hLin hVal, h145 WK WR hP hLin hVal]
  try rfl
theorem h150 : StableHlo.after (KernelIdeal.Tail.ks1 (F := Ideal)) WK (Proc.devRef .tc KernelIdeal.main_v302) = StableHlo.after (ReferenceIdeal.Hand.tlOps1 (F := Ideal)) WR (Proc.devRef .tc ReferenceIdeal.main_v315) :=
  by
  have eK := final_unary (KernelIdeal.Tail.writes_ks1 (F := Ideal)) WK 155 (rest := (KernelIdeal.Tail.ks1 (F := Ideal)).drop 156) (wrest := KernelIdeal.Tail.wr_ks1.drop 156) (y := KernelIdeal.main_v302) (x := KernelIdeal.main_v301) rfl rfl (by decide +kernel) (by decide +kernel)
  have eR := final_unary (ReferenceIdeal.Hand.writes_tlOps1 (F := Ideal)) WR 150 (rest := (ReferenceIdeal.Hand.tlOps1 (F := Ideal)).drop 151) (wrest := ReferenceIdeal.Hand.wr_tlOps1.drop 151) (y := ReferenceIdeal.main_v315) (x := ReferenceIdeal.main_v314) rfl rfl (by decide +kernel) (by decide +kernel)
  rw [eK, eR, h149 WK WR hP hLin hVal]
  try rfl
theorem h151 : StableHlo.after (KernelIdeal.Tail.ks1 (F := Ideal)) WK (Proc.devRef .tc KernelIdeal.main_c_120) = StableHlo.after (ReferenceIdeal.Hand.tlOps1 (F := Ideal)) WR (Proc.devRef .tc ReferenceIdeal.main_c_113) :=
  by
  have eK := final_nullary (KernelIdeal.Tail.writes_ks1 (F := Ideal)) WK 156 (rest := (KernelIdeal.Tail.ks1 (F := Ideal)).drop 157) (wrest := KernelIdeal.Tail.wr_ks1.drop 157) (y := KernelIdeal.main_c_120) rfl rfl (by decide +kernel)
  have eR := final_nullary (ReferenceIdeal.Hand.writes_tlOps1 (F := Ideal)) WR 151 (rest := (ReferenceIdeal.Hand.tlOps1 (F := Ideal)).drop 152) (wrest := ReferenceIdeal.Hand.wr_tlOps1.drop 152) (y := ReferenceIdeal.main_c_113) rfl rfl (by decide +kernel)
  rw [eK, eR]
  try rfl
theorem h152 : StableHlo.after (KernelIdeal.Tail.ks1 (F := Ideal)) WK (Proc.devRef .tc KernelIdeal.main_v303) = StableHlo.after (ReferenceIdeal.Hand.tlOps1 (F := Ideal)) WR (Proc.devRef .tc ReferenceIdeal.main_v316) :=
  by
  have eK := final_unary (KernelIdeal.Tail.writes_ks1 (F := Ideal)) WK 157 (rest := (KernelIdeal.Tail.ks1 (F := Ideal)).drop 158) (wrest := KernelIdeal.Tail.wr_ks1.drop 158) (y := KernelIdeal.main_v303) (x := KernelIdeal.main_c_120) rfl rfl (by decide +kernel) (by decide +kernel)
  have eR := final_unary (ReferenceIdeal.Hand.writes_tlOps1 (F := Ideal)) WR 152 (rest := (ReferenceIdeal.Hand.tlOps1 (F := Ideal)).drop 153) (wrest := ReferenceIdeal.Hand.wr_tlOps1.drop 153) (y := ReferenceIdeal.main_v316) (x := ReferenceIdeal.main_c_113) rfl rfl (by decide +kernel) (by decide +kernel)
  rw [eK, eR, h151 WK WR hP hLin hVal]
  try rfl
theorem h153 : StableHlo.after (KernelIdeal.Tail.ks1 (F := Ideal)) WK (Proc.devRef .tc KernelIdeal.main_c_121) = StableHlo.after (ReferenceIdeal.Hand.tlOps1 (F := Ideal)) WR (Proc.devRef .tc ReferenceIdeal.main_c_114) :=
  by
  have eK := final_nullary (KernelIdeal.Tail.writes_ks1 (F := Ideal)) WK 158 (rest := (KernelIdeal.Tail.ks1 (F := Ideal)).drop 159) (wrest := KernelIdeal.Tail.wr_ks1.drop 159) (y := KernelIdeal.main_c_121) rfl rfl (by decide +kernel)
  have eR := final_nullary (ReferenceIdeal.Hand.writes_tlOps1 (F := Ideal)) WR 153 (rest := (ReferenceIdeal.Hand.tlOps1 (F := Ideal)).drop 154) (wrest := ReferenceIdeal.Hand.wr_tlOps1.drop 154) (y := ReferenceIdeal.main_c_114) rfl rfl (by decide +kernel)
  rw [eK, eR]
  try rfl
theorem h154 : StableHlo.after (KernelIdeal.Tail.ks1 (F := Ideal)) WK (Proc.devRef .tc KernelIdeal.main_v304) = StableHlo.after (ReferenceIdeal.Hand.tlOps1 (F := Ideal)) WR (Proc.devRef .tc ReferenceIdeal.main_v317) :=
  by
  have eK := final_unary (KernelIdeal.Tail.writes_ks1 (F := Ideal)) WK 159 (rest := (KernelIdeal.Tail.ks1 (F := Ideal)).drop 160) (wrest := KernelIdeal.Tail.wr_ks1.drop 160) (y := KernelIdeal.main_v304) (x := KernelIdeal.main_c_121) rfl rfl (by decide +kernel) (by decide +kernel)
  have eR := final_unary (ReferenceIdeal.Hand.writes_tlOps1 (F := Ideal)) WR 154 (rest := (ReferenceIdeal.Hand.tlOps1 (F := Ideal)).drop 155) (wrest := ReferenceIdeal.Hand.wr_tlOps1.drop 155) (y := ReferenceIdeal.main_v317) (x := ReferenceIdeal.main_c_114) rfl rfl (by decide +kernel) (by decide +kernel)
  rw [eK, eR, h153 WK WR hP hLin hVal]
  try rfl
theorem h155 : StableHlo.after (KernelIdeal.Tail.ks1 (F := Ideal)) WK (Proc.devRef .tc KernelIdeal.main_v305) = StableHlo.after (ReferenceIdeal.Hand.tlOps1 (F := Ideal)) WR (Proc.devRef .tc ReferenceIdeal.main_v318) :=
  by
  have eK := final_binary (KernelIdeal.Tail.writes_ks1 (F := Ideal)) WK 160 (rest := (KernelIdeal.Tail.ks1 (F := Ideal)).drop 161) (wrest := KernelIdeal.Tail.wr_ks1.drop 161) (y := KernelIdeal.main_v305) (a := KernelIdeal.main_v227) (b := KernelIdeal.main_v304) rfl rfl (by decide +kernel) (by decide +kernel) (by decide +kernel)
  have eR := final_binary (ReferenceIdeal.Hand.writes_tlOps1 (F := Ideal)) WR 155 (rest := (ReferenceIdeal.Hand.tlOps1 (F := Ideal)).drop 156) (wrest := ReferenceIdeal.Hand.wr_tlOps1.drop 156) (y := ReferenceIdeal.main_v318) (a := ReferenceIdeal.main_v240) (b := ReferenceIdeal.main_v317) rfl rfl (by decide +kernel) (by decide +kernel) (by decide +kernel)
  rw [eK, eR, h29 WK WR hP hLin hVal, h154 WK WR hP hLin hVal]
  try rfl
theorem h156 : StableHlo.after (KernelIdeal.Tail.ks1 (F := Ideal)) WK (Proc.devRef .tc KernelIdeal.main_v306) = StableHlo.after (ReferenceIdeal.Hand.tlOps1 (F := Ideal)) WR (Proc.devRef .tc ReferenceIdeal.main_v319) :=
  by
  have eK := final_binary (KernelIdeal.Tail.writes_ks1 (F := Ideal)) WK 161 (rest := (KernelIdeal.Tail.ks1 (F := Ideal)).drop 162) (wrest := KernelIdeal.Tail.wr_ks1.drop 162) (y := KernelIdeal.main_v306) (a := KernelIdeal.main_v223) (b := KernelIdeal.main_v305) rfl rfl (by decide +kernel) (by decide +kernel) (by decide +kernel)
  have eR := final_binary (ReferenceIdeal.Hand.writes_tlOps1 (F := Ideal)) WR 156 (rest := (ReferenceIdeal.Hand.tlOps1 (F := Ideal)).drop 157) (wrest := ReferenceIdeal.Hand.wr_tlOps1.drop 157) (y := ReferenceIdeal.main_v319) (a := ReferenceIdeal.main_v236) (b := ReferenceIdeal.main_v318) rfl rfl (by decide +kernel) (by decide +kernel) (by decide +kernel)
  rw [eK, eR, h22 WK WR hP hLin hVal, h155 WK WR hP hLin hVal]
  try rfl
theorem h157 : StableHlo.after (KernelIdeal.Tail.ks1 (F := Ideal)) WK (Proc.devRef .tc KernelIdeal.main_c_122) = StableHlo.after (ReferenceIdeal.Hand.tlOps1 (F := Ideal)) WR (Proc.devRef .tc ReferenceIdeal.main_c_115) :=
  by
  have eK := final_nullary (KernelIdeal.Tail.writes_ks1 (F := Ideal)) WK 162 (rest := (KernelIdeal.Tail.ks1 (F := Ideal)).drop 163) (wrest := KernelIdeal.Tail.wr_ks1.drop 163) (y := KernelIdeal.main_c_122) rfl rfl (by decide +kernel)
  have eR := final_nullary (ReferenceIdeal.Hand.writes_tlOps1 (F := Ideal)) WR 157 (rest := (ReferenceIdeal.Hand.tlOps1 (F := Ideal)).drop 158) (wrest := ReferenceIdeal.Hand.wr_tlOps1.drop 158) (y := ReferenceIdeal.main_c_115) rfl rfl (by decide +kernel)
  rw [eK, eR]
  try rfl
theorem h158 : StableHlo.after (KernelIdeal.Tail.ks1 (F := Ideal)) WK (Proc.devRef .tc KernelIdeal.main_call29_v0) = StableHlo.after (ReferenceIdeal.Hand.tlOps1 (F := Ideal)) WR (Proc.devRef .tc ReferenceIdeal.main_call31_v0) :=
  by
  have eK := final_unary (KernelIdeal.Tail.writes_ks1 (F := Ideal)) WK 163 (rest := (KernelIdeal.Tail.ks1 (F := Ideal)).drop 164) (wrest := KernelIdeal.Tail.wr_ks1.drop 164) (y := KernelIdeal.main_call29_v0) (x := KernelIdeal.main_c_122) rfl rfl (by decide +kernel) (by decide +kernel)
  have eR := final_unary (ReferenceIdeal.Hand.writes_tlOps1 (F := Ideal)) WR 158 (rest := (ReferenceIdeal.Hand.tlOps1 (F := Ideal)).drop 159) (wrest := ReferenceIdeal.Hand.wr_tlOps1.drop 159) (y := ReferenceIdeal.main_call31_v0) (x := ReferenceIdeal.main_c_115) rfl rfl (by decide +kernel) (by decide +kernel)
  rw [eK, eR, h157 WK WR hP hLin hVal]
  try rfl
theorem h159 : StableHlo.after (KernelIdeal.Tail.ks1 (F := Ideal)) WK (Proc.devRef .tc KernelIdeal.main_call29_v1) = StableHlo.after (ReferenceIdeal.Hand.tlOps1 (F := Ideal)) WR (Proc.devRef .tc ReferenceIdeal.main_call31_v1) :=
  by
  have eK := final_unary (KernelIdeal.Tail.writes_ks1 (F := Ideal)) WK 164 (rest := (KernelIdeal.Tail.ks1 (F := Ideal)).drop 165) (wrest := KernelIdeal.Tail.wr_ks1.drop 165) (y := KernelIdeal.main_call29_v1) (x := KernelIdeal.main_call29_v0) rfl rfl (by decide +kernel) (by decide +kernel)
  have eR := final_unary (ReferenceIdeal.Hand.writes_tlOps1 (F := Ideal)) WR 159 (rest := (ReferenceIdeal.Hand.tlOps1 (F := Ideal)).drop 160) (wrest := ReferenceIdeal.Hand.wr_tlOps1.drop 160) (y := ReferenceIdeal.main_call31_v1) (x := ReferenceIdeal.main_call31_v0) rfl rfl (by decide +kernel) (by decide +kernel)
  rw [eK, eR, h158 WK WR hP hLin hVal]
  try rfl
theorem h160 : StableHlo.after (KernelIdeal.Tail.ks1 (F := Ideal)) WK (Proc.devRef .tc KernelIdeal.main_v307) = StableHlo.after (ReferenceIdeal.Hand.tlOps1 (F := Ideal)) WR (Proc.devRef .tc ReferenceIdeal.main_v320) :=
  by
  have eK := final_ternary (KernelIdeal.Tail.writes_ks1 (F := Ideal)) WK 165 (rest := (KernelIdeal.Tail.ks1 (F := Ideal)).drop 166) (wrest := KernelIdeal.Tail.wr_ks1.drop 166) (y := KernelIdeal.main_v307) (c := KernelIdeal.main_v306) (a := KernelIdeal.main_v227) (b := KernelIdeal.main_call29_v1) rfl rfl (by decide +kernel) (by decide +kernel) (by decide +kernel) (by decide +kernel)
  have eR := final_ternary (ReferenceIdeal.Hand.writes_tlOps1 (F := Ideal)) WR 160 (rest := (ReferenceIdeal.Hand.tlOps1 (F := Ideal)).drop 161) (wrest := ReferenceIdeal.Hand.wr_tlOps1.drop 161) (y := ReferenceIdeal.main_v320) (c := ReferenceIdeal.main_v319) (a := ReferenceIdeal.main_v240) (b := ReferenceIdeal.main_call31_v1) rfl rfl (by decide +kernel) (by decide +kernel) (by decide +kernel) (by decide +kernel)
  rw [eK, eR, h156 WK WR hP hLin hVal, h29 WK WR hP hLin hVal, h159 WK WR hP hLin hVal]
  try rfl
theorem h161 : StableHlo.after (KernelIdeal.Tail.ks1 (F := Ideal)) WK (Proc.devRef .tc KernelIdeal.main_c_123) = StableHlo.after (ReferenceIdeal.Hand.tlOps1 (F := Ideal)) WR (Proc.devRef .tc ReferenceIdeal.main_c_116) :=
  by
  have eK := final_nullary (KernelIdeal.Tail.writes_ks1 (F := Ideal)) WK 166 (rest := (KernelIdeal.Tail.ks1 (F := Ideal)).drop 167) (wrest := KernelIdeal.Tail.wr_ks1.drop 167) (y := KernelIdeal.main_c_123) rfl rfl (by decide +kernel)
  have eR := final_nullary (ReferenceIdeal.Hand.writes_tlOps1 (F := Ideal)) WR 161 (rest := (ReferenceIdeal.Hand.tlOps1 (F := Ideal)).drop 162) (wrest := ReferenceIdeal.Hand.wr_tlOps1.drop 162) (y := ReferenceIdeal.main_c_116) rfl rfl (by decide +kernel)
  rw [eK, eR]
  try rfl
theorem h162 : StableHlo.after (KernelIdeal.Tail.ks1 (F := Ideal)) WK (Proc.devRef .tc KernelIdeal.main_v308) = StableHlo.after (ReferenceIdeal.Hand.tlOps1 (F := Ideal)) WR (Proc.devRef .tc ReferenceIdeal.main_v321) :=
  by
  have eK := final_unary (KernelIdeal.Tail.writes_ks1 (F := Ideal)) WK 167 (rest := (KernelIdeal.Tail.ks1 (F := Ideal)).drop 168) (wrest := KernelIdeal.Tail.wr_ks1.drop 168) (y := KernelIdeal.main_v308) (x := KernelIdeal.main_c_123) rfl rfl (by decide +kernel) (by decide +kernel)
  have eR := final_unary (ReferenceIdeal.Hand.writes_tlOps1 (F := Ideal)) WR 162 (rest := (ReferenceIdeal.Hand.tlOps1 (F := Ideal)).drop 163) (wrest := ReferenceIdeal.Hand.wr_tlOps1.drop 163) (y := ReferenceIdeal.main_v321) (x := ReferenceIdeal.main_c_116) rfl rfl (by decide +kernel) (by decide +kernel)
  rw [eK, eR, h161 WK WR hP hLin hVal]
  try rfl
theorem h163 : StableHlo.after (KernelIdeal.Tail.ks1 (F := Ideal)) WK (Proc.devRef .tc KernelIdeal.main_v309) = StableHlo.after (ReferenceIdeal.Hand.tlOps1 (F := Ideal)) WR (Proc.devRef .tc ReferenceIdeal.main_v322) :=
  by
  have eK := final_binary (KernelIdeal.Tail.writes_ks1 (F := Ideal)) WK 168 (rest := (KernelIdeal.Tail.ks1 (F := Ideal)).drop 169) (wrest := KernelIdeal.Tail.wr_ks1.drop 169) (y := KernelIdeal.main_v309) (a := KernelIdeal.main_v227) (b := KernelIdeal.main_v308) rfl rfl (by decide +kernel) (by decide +kernel) (by decide +kernel)
  have eR := final_binary (ReferenceIdeal.Hand.writes_tlOps1 (F := Ideal)) WR 163 (rest := (ReferenceIdeal.Hand.tlOps1 (F := Ideal)).drop 164) (wrest := ReferenceIdeal.Hand.wr_tlOps1.drop 164) (y := ReferenceIdeal.main_v322) (a := ReferenceIdeal.main_v240) (b := ReferenceIdeal.main_v321) rfl rfl (by decide +kernel) (by decide +kernel) (by decide +kernel)
  rw [eK, eR, h29 WK WR hP hLin hVal, h162 WK WR hP hLin hVal]
  try rfl
theorem h164 : StableHlo.after (KernelIdeal.Tail.ks1 (F := Ideal)) WK (Proc.devRef .tc KernelIdeal.main_v310) = StableHlo.after (ReferenceIdeal.Hand.tlOps1 (F := Ideal)) WR (Proc.devRef .tc ReferenceIdeal.main_v323) :=
  by
  have eK := final_binary (KernelIdeal.Tail.writes_ks1 (F := Ideal)) WK 169 (rest := (KernelIdeal.Tail.ks1 (F := Ideal)).drop 170) (wrest := KernelIdeal.Tail.wr_ks1.drop 170) (y := KernelIdeal.main_v310) (a := KernelIdeal.main_v223) (b := KernelIdeal.main_v309) rfl rfl (by decide +kernel) (by decide +kernel) (by decide +kernel)
  have eR := final_binary (ReferenceIdeal.Hand.writes_tlOps1 (F := Ideal)) WR 164 (rest := (ReferenceIdeal.Hand.tlOps1 (F := Ideal)).drop 165) (wrest := ReferenceIdeal.Hand.wr_tlOps1.drop 165) (y := ReferenceIdeal.main_v323) (a := ReferenceIdeal.main_v236) (b := ReferenceIdeal.main_v322) rfl rfl (by decide +kernel) (by decide +kernel) (by decide +kernel)
  rw [eK, eR, h22 WK WR hP hLin hVal, h163 WK WR hP hLin hVal]
  try rfl
theorem h165 : StableHlo.after (KernelIdeal.Tail.ks1 (F := Ideal)) WK (Proc.devRef .tc KernelIdeal.main_c_124) = StableHlo.after (ReferenceIdeal.Hand.tlOps1 (F := Ideal)) WR (Proc.devRef .tc ReferenceIdeal.main_c_117) :=
  by
  have eK := final_nullary (KernelIdeal.Tail.writes_ks1 (F := Ideal)) WK 170 (rest := (KernelIdeal.Tail.ks1 (F := Ideal)).drop 171) (wrest := KernelIdeal.Tail.wr_ks1.drop 171) (y := KernelIdeal.main_c_124) rfl rfl (by decide +kernel)
  have eR := final_nullary (ReferenceIdeal.Hand.writes_tlOps1 (F := Ideal)) WR 165 (rest := (ReferenceIdeal.Hand.tlOps1 (F := Ideal)).drop 166) (wrest := ReferenceIdeal.Hand.wr_tlOps1.drop 166) (y := ReferenceIdeal.main_c_117) rfl rfl (by decide +kernel)
  rw [eK, eR]
  try rfl
theorem h166 : StableHlo.after (KernelIdeal.Tail.ks1 (F := Ideal)) WK (Proc.devRef .tc KernelIdeal.main_call30_v0) = StableHlo.after (ReferenceIdeal.Hand.tlOps1 (F := Ideal)) WR (Proc.devRef .tc ReferenceIdeal.main_call32_v0) :=
  by
  have eK := final_unary (KernelIdeal.Tail.writes_ks1 (F := Ideal)) WK 171 (rest := (KernelIdeal.Tail.ks1 (F := Ideal)).drop 172) (wrest := KernelIdeal.Tail.wr_ks1.drop 172) (y := KernelIdeal.main_call30_v0) (x := KernelIdeal.main_c_124) rfl rfl (by decide +kernel) (by decide +kernel)
  have eR := final_unary (ReferenceIdeal.Hand.writes_tlOps1 (F := Ideal)) WR 166 (rest := (ReferenceIdeal.Hand.tlOps1 (F := Ideal)).drop 167) (wrest := ReferenceIdeal.Hand.wr_tlOps1.drop 167) (y := ReferenceIdeal.main_call32_v0) (x := ReferenceIdeal.main_c_117) rfl rfl (by decide +kernel) (by decide +kernel)
  rw [eK, eR, h165 WK WR hP hLin hVal]
  try rfl
theorem h167 : StableHlo.after (KernelIdeal.Tail.ks1 (F := Ideal)) WK (Proc.devRef .tc KernelIdeal.main_call30_v1) = StableHlo.after (ReferenceIdeal.Hand.tlOps1 (F := Ideal)) WR (Proc.devRef .tc ReferenceIdeal.main_call32_v1) :=
  by
  have eK := final_unary (KernelIdeal.Tail.writes_ks1 (F := Ideal)) WK 172 (rest := (KernelIdeal.Tail.ks1 (F := Ideal)).drop 173) (wrest := KernelIdeal.Tail.wr_ks1.drop 173) (y := KernelIdeal.main_call30_v1) (x := KernelIdeal.main_call30_v0) rfl rfl (by decide +kernel) (by decide +kernel)
  have eR := final_unary (ReferenceIdeal.Hand.writes_tlOps1 (F := Ideal)) WR 167 (rest := (ReferenceIdeal.Hand.tlOps1 (F := Ideal)).drop 168) (wrest := ReferenceIdeal.Hand.wr_tlOps1.drop 168) (y := ReferenceIdeal.main_call32_v1) (x := ReferenceIdeal.main_call32_v0) rfl rfl (by decide +kernel) (by decide +kernel)
  rw [eK, eR, h166 WK WR hP hLin hVal]
  try rfl
theorem h168 : StableHlo.after (KernelIdeal.Tail.ks1 (F := Ideal)) WK (Proc.devRef .tc KernelIdeal.main_v311) = StableHlo.after (ReferenceIdeal.Hand.tlOps1 (F := Ideal)) WR (Proc.devRef .tc ReferenceIdeal.main_v324) :=
  by
  have eK := final_ternary (KernelIdeal.Tail.writes_ks1 (F := Ideal)) WK 173 (rest := (KernelIdeal.Tail.ks1 (F := Ideal)).drop 174) (wrest := KernelIdeal.Tail.wr_ks1.drop 174) (y := KernelIdeal.main_v311) (c := KernelIdeal.main_v310) (a := KernelIdeal.main_v203) (b := KernelIdeal.main_call30_v1) rfl rfl (by decide +kernel) (by decide +kernel) (by decide +kernel) (by decide +kernel)
  have eR := final_ternary (ReferenceIdeal.Hand.writes_tlOps1 (F := Ideal)) WR 168 (rest := (ReferenceIdeal.Hand.tlOps1 (F := Ideal)).drop 169) (wrest := ReferenceIdeal.Hand.wr_tlOps1.drop 169) (y := ReferenceIdeal.main_v324) (c := ReferenceIdeal.main_v323) (a := ReferenceIdeal.main_v218) (b := ReferenceIdeal.main_call32_v1) rfl rfl (by decide +kernel) (by decide +kernel) (by decide +kernel) (by decide +kernel)
  rw [eK, eR, h164 WK WR hP hLin hVal, hLin, h167 WK WR hP hLin hVal]
  try rfl
theorem h169 : StableHlo.after (KernelIdeal.Tail.ks1 (F := Ideal)) WK (Proc.devRef .tc KernelIdeal.main_c_125) = StableHlo.after (ReferenceIdeal.Hand.tlOps1 (F := Ideal)) WR (Proc.devRef .tc ReferenceIdeal.main_c_118) :=
  by
  have eK := final_nullary (KernelIdeal.Tail.writes_ks1 (F := Ideal)) WK 174 (rest := (KernelIdeal.Tail.ks1 (F := Ideal)).drop 175) (wrest := KernelIdeal.Tail.wr_ks1.drop 175) (y := KernelIdeal.main_c_125) rfl rfl (by decide +kernel)
  have eR := final_nullary (ReferenceIdeal.Hand.writes_tlOps1 (F := Ideal)) WR 169 (rest := (ReferenceIdeal.Hand.tlOps1 (F := Ideal)).drop 170) (wrest := ReferenceIdeal.Hand.wr_tlOps1.drop 170) (y := ReferenceIdeal.main_c_118) rfl rfl (by decide +kernel)
  rw [eK, eR]
  try rfl
theorem h170 : StableHlo.after (KernelIdeal.Tail.ks1 (F := Ideal)) WK (Proc.devRef .tc KernelIdeal.main_v312) = StableHlo.after (ReferenceIdeal.Hand.tlOps1 (F := Ideal)) WR (Proc.devRef .tc ReferenceIdeal.main_v325) :=
  by
  have eK := final_unary (KernelIdeal.Tail.writes_ks1 (F := Ideal)) WK 175 (rest := (KernelIdeal.Tail.ks1 (F := Ideal)).drop 176) (wrest := KernelIdeal.Tail.wr_ks1.drop 176) (y := KernelIdeal.main_v312) (x := KernelIdeal.main_c_125) rfl rfl (by decide +kernel) (by decide +kernel)
  have eR := final_unary (ReferenceIdeal.Hand.writes_tlOps1 (F := Ideal)) WR 170 (rest := (ReferenceIdeal.Hand.tlOps1 (F := Ideal)).drop 171) (wrest := ReferenceIdeal.Hand.wr_tlOps1.drop 171) (y := ReferenceIdeal.main_v325) (x := ReferenceIdeal.main_c_118) rfl rfl (by decide +kernel) (by decide +kernel)
  rw [eK, eR, h169 WK WR hP hLin hVal]
  try rfl
theorem h171 : StableHlo.after (KernelIdeal.Tail.ks1 (F := Ideal)) WK (Proc.devRef .tc KernelIdeal.main_v313) = StableHlo.after (ReferenceIdeal.Hand.tlOps1 (F := Ideal)) WR (Proc.devRef .tc ReferenceIdeal.main_v326) :=
  by
  have eK := final_binary (KernelIdeal.Tail.writes_ks1 (F := Ideal)) WK 176 (rest := (KernelIdeal.Tail.ks1 (F := Ideal)).drop 177) (wrest := KernelIdeal.Tail.wr_ks1.drop 177) (y := KernelIdeal.main_v313) (a := KernelIdeal.main_v307) (b := KernelIdeal.main_v312) rfl rfl (by decide +kernel) (by decide +kernel) (by decide +kernel)
  have eR := final_binary (ReferenceIdeal.Hand.writes_tlOps1 (F := Ideal)) WR 171 (rest := (ReferenceIdeal.Hand.tlOps1 (F := Ideal)).drop 172) (wrest := ReferenceIdeal.Hand.wr_tlOps1.drop 172) (y := ReferenceIdeal.main_v326) (a := ReferenceIdeal.main_v320) (b := ReferenceIdeal.main_v325) rfl rfl (by decide +kernel) (by decide +kernel) (by decide +kernel)
  rw [eK, eR, h160 WK WR hP hLin hVal, h170 WK WR hP hLin hVal]
  try rfl
theorem h172 : StableHlo.after (KernelIdeal.Tail.ks1 (F := Ideal)) WK (Proc.devRef .tc KernelIdeal.main_c_126) = StableHlo.after (ReferenceIdeal.Hand.tlOps1 (F := Ideal)) WR (Proc.devRef .tc ReferenceIdeal.main_c_119) :=
  by
  have eK := final_nullary (KernelIdeal.Tail.writes_ks1 (F := Ideal)) WK 177 (rest := (KernelIdeal.Tail.ks1 (F := Ideal)).drop 178) (wrest := KernelIdeal.Tail.wr_ks1.drop 178) (y := KernelIdeal.main_c_126) rfl rfl (by decide +kernel)
  have eR := final_nullary (ReferenceIdeal.Hand.writes_tlOps1 (F := Ideal)) WR 172 (rest := (ReferenceIdeal.Hand.tlOps1 (F := Ideal)).drop 173) (wrest := ReferenceIdeal.Hand.wr_tlOps1.drop 173) (y := ReferenceIdeal.main_c_119) rfl rfl (by decide +kernel)
  rw [eK, eR]
  try rfl
theorem h173 : StableHlo.after (KernelIdeal.Tail.ks1 (F := Ideal)) WK (Proc.devRef .tc KernelIdeal.main_v314) = StableHlo.after (ReferenceIdeal.Hand.tlOps1 (F := Ideal)) WR (Proc.devRef .tc ReferenceIdeal.main_v327) :=
  by
  have eK := final_unary (KernelIdeal.Tail.writes_ks1 (F := Ideal)) WK 178 (rest := (KernelIdeal.Tail.ks1 (F := Ideal)).drop 179) (wrest := KernelIdeal.Tail.wr_ks1.drop 179) (y := KernelIdeal.main_v314) (x := KernelIdeal.main_c_126) rfl rfl (by decide +kernel) (by decide +kernel)
  have eR := final_unary (ReferenceIdeal.Hand.writes_tlOps1 (F := Ideal)) WR 173 (rest := (ReferenceIdeal.Hand.tlOps1 (F := Ideal)).drop 174) (wrest := ReferenceIdeal.Hand.wr_tlOps1.drop 174) (y := ReferenceIdeal.main_v327) (x := ReferenceIdeal.main_c_119) rfl rfl (by decide +kernel) (by decide +kernel)
  rw [eK, eR, h172 WK WR hP hLin hVal]
  try rfl
theorem h174 : StableHlo.after (KernelIdeal.Tail.ks1 (F := Ideal)) WK (Proc.devRef .tc KernelIdeal.main_v315) = StableHlo.after (ReferenceIdeal.Hand.tlOps1 (F := Ideal)) WR (Proc.devRef .tc ReferenceIdeal.main_v328) :=
  by
  have eK := final_binary (KernelIdeal.Tail.writes_ks1 (F := Ideal)) WK 179 (rest := (KernelIdeal.Tail.ks1 (F := Ideal)).drop 180) (wrest := KernelIdeal.Tail.wr_ks1.drop 180) (y := KernelIdeal.main_v315) (a := KernelIdeal.main_v307) (b := KernelIdeal.main_v314) rfl rfl (by decide +kernel) (by decide +kernel) (by decide +kernel)
  have eR := final_binary (ReferenceIdeal.Hand.writes_tlOps1 (F := Ideal)) WR 174 (rest := (ReferenceIdeal.Hand.tlOps1 (F := Ideal)).drop 175) (wrest := ReferenceIdeal.Hand.wr_tlOps1.drop 175) (y := ReferenceIdeal.main_v328) (a := ReferenceIdeal.main_v320) (b := ReferenceIdeal.main_v327) rfl rfl (by decide +kernel) (by decide +kernel) (by decide +kernel)
  rw [eK, eR, h160 WK WR hP hLin hVal, h173 WK WR hP hLin hVal]
  try rfl
theorem h175 : StableHlo.after (KernelIdeal.Tail.ks1 (F := Ideal)) WK (Proc.devRef .tc KernelIdeal.main_v316) = StableHlo.after (ReferenceIdeal.Hand.tlOps1 (F := Ideal)) WR (Proc.devRef .tc ReferenceIdeal.main_v329) :=
  by
  have eK := final_ternary (KernelIdeal.Tail.writes_ks1 (F := Ideal)) WK 180 (rest := (KernelIdeal.Tail.ks1 (F := Ideal)).drop 181) (wrest := KernelIdeal.Tail.wr_ks1.drop 181) (y := KernelIdeal.main_v316) (c := KernelIdeal.main_v313) (a := KernelIdeal.main_v315) (b := KernelIdeal.main_v307) rfl rfl (by decide +kernel) (by decide +kernel) (by decide +kernel) (by decide +kernel)
  have eR := final_ternary (ReferenceIdeal.Hand.writes_tlOps1 (F := Ideal)) WR 175 (rest := (ReferenceIdeal.Hand.tlOps1 (F := Ideal)).drop 176) (wrest := ReferenceIdeal.Hand.wr_tlOps1.drop 176) (y := ReferenceIdeal.main_v329) (c := ReferenceIdeal.main_v326) (a := ReferenceIdeal.main_v328) (b := ReferenceIdeal.main_v320) rfl rfl (by decide +kernel) (by decide +kernel) (by decide +kernel) (by decide +kernel)
  rw [eK, eR, h171 WK WR hP hLin hVal, h174 WK WR hP hLin hVal, h160 WK WR hP hLin hVal]
  try rfl
theorem h176 : StableHlo.after (KernelIdeal.Tail.ks1 (F := Ideal)) WK (Proc.devRef .tc KernelIdeal.main_v317) = StableHlo.after (ReferenceIdeal.Hand.tlOps1 (F := Ideal)) WR (Proc.devRef .tc ReferenceIdeal.main_v330) :=
  by
  have eK := final_unary (KernelIdeal.Tail.writes_ks1 (F := Ideal)) WK 181 (rest := (KernelIdeal.Tail.ks1 (F := Ideal)).drop 182) (wrest := KernelIdeal.Tail.wr_ks1.drop 182) (y := KernelIdeal.main_v317) (x := KernelIdeal.main_v316) rfl rfl (by decide +kernel) (by decide +kernel)
  have eR := final_unary (ReferenceIdeal.Hand.writes_tlOps1 (F := Ideal)) WR 176 (rest := (ReferenceIdeal.Hand.tlOps1 (F := Ideal)).drop 177) (wrest := ReferenceIdeal.Hand.wr_tlOps1.drop 177) (y := ReferenceIdeal.main_v330) (x := ReferenceIdeal.main_v329) rfl rfl (by decide +kernel) (by decide +kernel)
  rw [eK, eR, h175 WK WR hP hLin hVal]
  try rfl
theorem h177 : StableHlo.after (KernelIdeal.Tail.ks1 (F := Ideal)) WK (Proc.devRef .tc KernelIdeal.main_v318) = StableHlo.after (ReferenceIdeal.Hand.tlOps1 (F := Ideal)) WR (Proc.devRef .tc ReferenceIdeal.main_v331) :=
  by
  have eK := final_ternary (KernelIdeal.Tail.writes_ks1 (F := Ideal)) WK 182 (rest := (KernelIdeal.Tail.ks1 (F := Ideal)).drop 183) (wrest := KernelIdeal.Tail.wr_ks1.drop 183) (y := KernelIdeal.main_v318) (c := KernelIdeal.main_v303) (a := KernelIdeal.main_v317) (b := KernelIdeal.main_v311) rfl rfl (by decide +kernel) (by decide +kernel) (by decide +kernel) (by decide +kernel)
  have eR := final_ternary (ReferenceIdeal.Hand.writes_tlOps1 (F := Ideal)) WR 177 (rest := (ReferenceIdeal.Hand.tlOps1 (F := Ideal)).drop 178) (wrest := ReferenceIdeal.Hand.wr_tlOps1.drop 178) (y := ReferenceIdeal.main_v331) (c := ReferenceIdeal.main_v316) (a := ReferenceIdeal.main_v330) (b := ReferenceIdeal.main_v324) rfl rfl (by decide +kernel) (by decide +kernel) (by decide +kernel) (by decide +kernel)
  rw [eK, eR, h152 WK WR hP hLin hVal, h176 WK WR hP hLin hVal, h168 WK WR hP hLin hVal]
  try rfl
theorem h178 : StableHlo.after (KernelIdeal.Tail.ks1 (F := Ideal)) WK (Proc.devRef .tc KernelIdeal.main_v319) = StableHlo.after (ReferenceIdeal.Hand.tlOps1 (F := Ideal)) WR (Proc.devRef .tc ReferenceIdeal.main_v332) :=
  by
  have eK := final_unary (KernelIdeal.Tail.writes_ks1 (F := Ideal)) WK 183 (rest := (KernelIdeal.Tail.ks1 (F := Ideal)).drop 184) (wrest := KernelIdeal.Tail.wr_ks1.drop 184) (y := KernelIdeal.main_v319) (x := KernelIdeal.main_v318) rfl rfl (by decide +kernel) (by decide +kernel)
  have eR := final_unary (ReferenceIdeal.Hand.writes_tlOps1 (F := Ideal)) WR 178 (rest := (ReferenceIdeal.Hand.tlOps1 (F := Ideal)).drop 179) (wrest := ReferenceIdeal.Hand.wr_tlOps1.drop 179) (y := ReferenceIdeal.main_v332) (x := ReferenceIdeal.main_v331) rfl rfl (by decide +kernel) (by decide +kernel)
  rw [eK, eR, h177 WK WR hP hLin hVal]
  try rfl
theorem h179 : StableHlo.after (KernelIdeal.Tail.ks1 (F := Ideal)) WK (Proc.devRef .tc KernelIdeal.main_c_127) = StableHlo.after (ReferenceIdeal.Hand.tlOps1 (F := Ideal)) WR (Proc.devRef .tc ReferenceIdeal.main_c_120) :=
  by
  have eK := final_nullary (KernelIdeal.Tail.writes_ks1 (F := Ideal)) WK 184 (rest := (KernelIdeal.Tail.ks1 (F := Ideal)).drop 185) (wrest := KernelIdeal.Tail.wr_ks1.drop 185) (y := KernelIdeal.main_c_127) rfl rfl (by decide +kernel)
  have eR := final_nullary (ReferenceIdeal.Hand.writes_tlOps1 (F := Ideal)) WR 179 (rest := (ReferenceIdeal.Hand.tlOps1 (F := Ideal)).drop 180) (wrest := ReferenceIdeal.Hand.wr_tlOps1.drop 180) (y := ReferenceIdeal.main_c_120) rfl rfl (by decide +kernel)
  rw [eK, eR]
  try rfl
theorem h180 : StableHlo.after (KernelIdeal.Tail.ks1 (F := Ideal)) WK (Proc.devRef .tc KernelIdeal.main_v320) = StableHlo.after (ReferenceIdeal.Hand.tlOps1 (F := Ideal)) WR (Proc.devRef .tc ReferenceIdeal.main_v333) :=
  by
  have eK := final_unary (KernelIdeal.Tail.writes_ks1 (F := Ideal)) WK 185 (rest := (KernelIdeal.Tail.ks1 (F := Ideal)).drop 186) (wrest := KernelIdeal.Tail.wr_ks1.drop 186) (y := KernelIdeal.main_v320) (x := KernelIdeal.main_c_127) rfl rfl (by decide +kernel) (by decide +kernel)
  have eR := final_unary (ReferenceIdeal.Hand.writes_tlOps1 (F := Ideal)) WR 180 (rest := (ReferenceIdeal.Hand.tlOps1 (F := Ideal)).drop 181) (wrest := ReferenceIdeal.Hand.wr_tlOps1.drop 181) (y := ReferenceIdeal.main_v333) (x := ReferenceIdeal.main_c_120) rfl rfl (by decide +kernel) (by decide +kernel)
  rw [eK, eR, h179 WK WR hP hLin hVal]
  try rfl
theorem h181 : StableHlo.after (KernelIdeal.Tail.ks1 (F := Ideal)) WK (Proc.devRef .tc KernelIdeal.main_v321) = StableHlo.after (ReferenceIdeal.Hand.tlOps1 (F := Ideal)) WR (Proc.devRef .tc ReferenceIdeal.main_v334) :=
  by
  have eK := final_binary (KernelIdeal.Tail.writes_ks1 (F := Ideal)) WK 186 (rest := (KernelIdeal.Tail.ks1 (F := Ideal)).drop 187) (wrest := KernelIdeal.Tail.wr_ks1.drop 187) (y := KernelIdeal.main_v321) (a := KernelIdeal.main_v319) (b := KernelIdeal.main_v320) rfl rfl (by decide +kernel) (by decide +kernel) (by decide +kernel)
  have eR := final_binary (ReferenceIdeal.Hand.writes_tlOps1 (F := Ideal)) WR 181 (rest := (ReferenceIdeal.Hand.tlOps1 (F := Ideal)).drop 182) (wrest := ReferenceIdeal.Hand.wr_tlOps1.drop 182) (y := ReferenceIdeal.main_v334) (a := ReferenceIdeal.main_v332) (b := ReferenceIdeal.main_v333) rfl rfl (by decide +kernel) (by decide +kernel) (by decide +kernel)
  rw [eK, eR, h178 WK WR hP hLin hVal, h180 WK WR hP hLin hVal]
  try rfl
theorem h182 : StableHlo.after (KernelIdeal.Tail.ks1 (F := Ideal)) WK (Proc.devRef .tc KernelIdeal.main_c_128) = StableHlo.after (ReferenceIdeal.Hand.tlOps1 (F := Ideal)) WR (Proc.devRef .tc ReferenceIdeal.main_c_121) :=
  by
  have eK := final_nullary (KernelIdeal.Tail.writes_ks1 (F := Ideal)) WK 187 (rest := (KernelIdeal.Tail.ks1 (F := Ideal)).drop 188) (wrest := KernelIdeal.Tail.wr_ks1.drop 188) (y := KernelIdeal.main_c_128) rfl rfl (by decide +kernel)
  have eR := final_nullary (ReferenceIdeal.Hand.writes_tlOps1 (F := Ideal)) WR 182 (rest := (ReferenceIdeal.Hand.tlOps1 (F := Ideal)).drop 183) (wrest := ReferenceIdeal.Hand.wr_tlOps1.drop 183) (y := ReferenceIdeal.main_c_121) rfl rfl (by decide +kernel)
  rw [eK, eR]
  try rfl
theorem h183 : StableHlo.after (KernelIdeal.Tail.ks1 (F := Ideal)) WK (Proc.devRef .tc KernelIdeal.main_call31_v0) = StableHlo.after (ReferenceIdeal.Hand.tlOps1 (F := Ideal)) WR (Proc.devRef .tc ReferenceIdeal.main_call33_v0) :=
  by
  have eK := final_unary (KernelIdeal.Tail.writes_ks1 (F := Ideal)) WK 188 (rest := (KernelIdeal.Tail.ks1 (F := Ideal)).drop 189) (wrest := KernelIdeal.Tail.wr_ks1.drop 189) (y := KernelIdeal.main_call31_v0) (x := KernelIdeal.main_c_128) rfl rfl (by decide +kernel) (by decide +kernel)
  have eR := final_unary (ReferenceIdeal.Hand.writes_tlOps1 (F := Ideal)) WR 183 (rest := (ReferenceIdeal.Hand.tlOps1 (F := Ideal)).drop 184) (wrest := ReferenceIdeal.Hand.wr_tlOps1.drop 184) (y := ReferenceIdeal.main_call33_v0) (x := ReferenceIdeal.main_c_121) rfl rfl (by decide +kernel) (by decide +kernel)
  rw [eK, eR, h182 WK WR hP hLin hVal]
  try rfl
theorem h184 : StableHlo.after (KernelIdeal.Tail.ks1 (F := Ideal)) WK (Proc.devRef .tc KernelIdeal.main_call31_v1) = StableHlo.after (ReferenceIdeal.Hand.tlOps1 (F := Ideal)) WR (Proc.devRef .tc ReferenceIdeal.main_call33_v1) :=
  by
  have eK := final_unary (KernelIdeal.Tail.writes_ks1 (F := Ideal)) WK 189 (rest := (KernelIdeal.Tail.ks1 (F := Ideal)).drop 190) (wrest := KernelIdeal.Tail.wr_ks1.drop 190) (y := KernelIdeal.main_call31_v1) (x := KernelIdeal.main_call31_v0) rfl rfl (by decide +kernel) (by decide +kernel)
  have eR := final_unary (ReferenceIdeal.Hand.writes_tlOps1 (F := Ideal)) WR 184 (rest := (ReferenceIdeal.Hand.tlOps1 (F := Ideal)).drop 185) (wrest := ReferenceIdeal.Hand.wr_tlOps1.drop 185) (y := ReferenceIdeal.main_call33_v1) (x := ReferenceIdeal.main_call33_v0) rfl rfl (by decide +kernel) (by decide +kernel)
  rw [eK, eR, h183 WK WR hP hLin hVal]
  try rfl
theorem h185 : StableHlo.after (KernelIdeal.Tail.ks1 (F := Ideal)) WK (Proc.devRef .tc KernelIdeal.main_call31_v2) = StableHlo.after (ReferenceIdeal.Hand.tlOps1 (F := Ideal)) WR (Proc.devRef .tc ReferenceIdeal.main_call33_v2) :=
  by
  have eK := final_binary (KernelIdeal.Tail.writes_ks1 (F := Ideal)) WK 190 (rest := (KernelIdeal.Tail.ks1 (F := Ideal)).drop 191) (wrest := KernelIdeal.Tail.wr_ks1.drop 191) (y := KernelIdeal.main_call31_v2) (a := KernelIdeal.main_v319) (b := KernelIdeal.main_call31_v1) rfl rfl (by decide +kernel) (by decide +kernel) (by decide +kernel)
  have eR := final_binary (ReferenceIdeal.Hand.writes_tlOps1 (F := Ideal)) WR 185 (rest := (ReferenceIdeal.Hand.tlOps1 (F := Ideal)).drop 186) (wrest := ReferenceIdeal.Hand.wr_tlOps1.drop 186) (y := ReferenceIdeal.main_call33_v2) (a := ReferenceIdeal.main_v332) (b := ReferenceIdeal.main_call33_v1) rfl rfl (by decide +kernel) (by decide +kernel) (by decide +kernel)
  rw [eK, eR, h178 WK WR hP hLin hVal, h184 WK WR hP hLin hVal]
  try rfl
theorem h186 : StableHlo.after (KernelIdeal.Tail.ks1 (F := Ideal)) WK (Proc.devRef .tc KernelIdeal.main_call31_v3) = StableHlo.after (ReferenceIdeal.Hand.tlOps1 (F := Ideal)) WR (Proc.devRef .tc ReferenceIdeal.main_call33_v3) :=
  by
  have eK := final_unary (KernelIdeal.Tail.writes_ks1 (F := Ideal)) WK 191 (rest := (KernelIdeal.Tail.ks1 (F := Ideal)).drop 192) (wrest := KernelIdeal.Tail.wr_ks1.drop 192) (y := KernelIdeal.main_call31_v3) (x := KernelIdeal.main_v319) rfl rfl (by decide +kernel) (by decide +kernel)
  have eR := final_unary (ReferenceIdeal.Hand.writes_tlOps1 (F := Ideal)) WR 186 (rest := (ReferenceIdeal.Hand.tlOps1 (F := Ideal)).drop 187) (wrest := ReferenceIdeal.Hand.wr_tlOps1.drop 187) (y := ReferenceIdeal.main_call33_v3) (x := ReferenceIdeal.main_v332) rfl rfl (by decide +kernel) (by decide +kernel)
  rw [eK, eR, h178 WK WR hP hLin hVal]
  try rfl
theorem h187 : StableHlo.after (KernelIdeal.Tail.ks1 (F := Ideal)) WK (Proc.devRef .tc KernelIdeal.main_call31_v4) = StableHlo.after (ReferenceIdeal.Hand.tlOps1 (F := Ideal)) WR (Proc.devRef .tc ReferenceIdeal.main_call33_v4) :=
  by
  have eK := final_unary (KernelIdeal.Tail.writes_ks1 (F := Ideal)) WK 192 (rest := (KernelIdeal.Tail.ks1 (F := Ideal)).drop 193) (wrest := KernelIdeal.Tail.wr_ks1.drop 193) (y := KernelIdeal.main_call31_v4) (x := KernelIdeal.main_call31_v0) rfl rfl (by decide +kernel) (by decide +kernel)
  have eR := final_unary (ReferenceIdeal.Hand.writes_tlOps1 (F := Ideal)) WR 187 (rest := (ReferenceIdeal.Hand.tlOps1 (F := Ideal)).drop 188) (wrest := ReferenceIdeal.Hand.wr_tlOps1.drop 188) (y := ReferenceIdeal.main_call33_v4) (x := ReferenceIdeal.main_call33_v0) rfl rfl (by decide +kernel) (by decide +kernel)
  rw [eK, eR, h183 WK WR hP hLin hVal]
  try rfl
theorem h188 : StableHlo.after (KernelIdeal.Tail.ks1 (F := Ideal)) WK (Proc.devRef .tc KernelIdeal.main_call31_v5) = StableHlo.after (ReferenceIdeal.Hand.tlOps1 (F := Ideal)) WR (Proc.devRef .tc ReferenceIdeal.main_call33_v5) :=
  by
  have eK := final_unary (KernelIdeal.Tail.writes_ks1 (F := Ideal)) WK 193 (rest := (KernelIdeal.Tail.ks1 (F := Ideal)).drop 194) (wrest := KernelIdeal.Tail.wr_ks1.drop 194) (y := KernelIdeal.main_call31_v5) (x := KernelIdeal.main_call31_v4) rfl rfl (by decide +kernel) (by decide +kernel)
  have eR := final_unary (ReferenceIdeal.Hand.writes_tlOps1 (F := Ideal)) WR 188 (rest := (ReferenceIdeal.Hand.tlOps1 (F := Ideal)).drop 189) (wrest := ReferenceIdeal.Hand.wr_tlOps1.drop 189) (y := ReferenceIdeal.main_call33_v5) (x := ReferenceIdeal.main_call33_v4) rfl rfl (by decide +kernel) (by decide +kernel)
  rw [eK, eR, h187 WK WR hP hLin hVal]
  try rfl
theorem h189 : StableHlo.after (KernelIdeal.Tail.ks1 (F := Ideal)) WK (Proc.devRef .tc KernelIdeal.main_call31_v6) = StableHlo.after (ReferenceIdeal.Hand.tlOps1 (F := Ideal)) WR (Proc.devRef .tc ReferenceIdeal.main_call33_v6) :=
  by
  have eK := final_binary (KernelIdeal.Tail.writes_ks1 (F := Ideal)) WK 194 (rest := (KernelIdeal.Tail.ks1 (F := Ideal)).drop 195) (wrest := KernelIdeal.Tail.wr_ks1.drop 195) (y := KernelIdeal.main_call31_v6) (a := KernelIdeal.main_call31_v3) (b := KernelIdeal.main_call31_v5) rfl rfl (by decide +kernel) (by decide +kernel) (by decide +kernel)
  have eR := final_binary (ReferenceIdeal.Hand.writes_tlOps1 (F := Ideal)) WR 189 (rest := (ReferenceIdeal.Hand.tlOps1 (F := Ideal)).drop 190) (wrest := ReferenceIdeal.Hand.wr_tlOps1.drop 190) (y := ReferenceIdeal.main_call33_v6) (a := ReferenceIdeal.main_call33_v3) (b := ReferenceIdeal.main_call33_v5) rfl rfl (by decide +kernel) (by decide +kernel) (by decide +kernel)
  rw [eK, eR, h186 WK WR hP hLin hVal, h188 WK WR hP hLin hVal]
  try rfl
theorem h190 : StableHlo.after (KernelIdeal.Tail.ks1 (F := Ideal)) WK (Proc.devRef .tc KernelIdeal.main_call31_v7) = StableHlo.after (ReferenceIdeal.Hand.tlOps1 (F := Ideal)) WR (Proc.devRef .tc ReferenceIdeal.main_call33_v7) :=
  by
  have eK := final_unary (KernelIdeal.Tail.writes_ks1 (F := Ideal)) WK 195 (rest := (KernelIdeal.Tail.ks1 (F := Ideal)).drop 196) (wrest := KernelIdeal.Tail.wr_ks1.drop 196) (y := KernelIdeal.main_call31_v7) (x := KernelIdeal.main_call31_v0) rfl rfl (by decide +kernel) (by decide +kernel)
  have eR := final_unary (ReferenceIdeal.Hand.writes_tlOps1 (F := Ideal)) WR 190 (rest := (ReferenceIdeal.Hand.tlOps1 (F := Ideal)).drop 191) (wrest := ReferenceIdeal.Hand.wr_tlOps1.drop 191) (y := ReferenceIdeal.main_call33_v7) (x := ReferenceIdeal.main_call33_v0) rfl rfl (by decide +kernel) (by decide +kernel)
  rw [eK, eR, h183 WK WR hP hLin hVal]
  try rfl
theorem h191 : StableHlo.after (KernelIdeal.Tail.ks1 (F := Ideal)) WK (Proc.devRef .tc KernelIdeal.main_call31_v8) = StableHlo.after (ReferenceIdeal.Hand.tlOps1 (F := Ideal)) WR (Proc.devRef .tc ReferenceIdeal.main_call33_v8) :=
  by
  have eK := final_binary (KernelIdeal.Tail.writes_ks1 (F := Ideal)) WK 196 (rest := (KernelIdeal.Tail.ks1 (F := Ideal)).drop 197) (wrest := KernelIdeal.Tail.wr_ks1.drop 197) (y := KernelIdeal.main_call31_v8) (a := KernelIdeal.main_v319) (b := KernelIdeal.main_call31_v7) rfl rfl (by decide +kernel) (by decide +kernel) (by decide +kernel)
  have eR := final_binary (ReferenceIdeal.Hand.writes_tlOps1 (F := Ideal)) WR 191 (rest := (ReferenceIdeal.Hand.tlOps1 (F := Ideal)).drop 192) (wrest := ReferenceIdeal.Hand.wr_tlOps1.drop 192) (y := ReferenceIdeal.main_call33_v8) (a := ReferenceIdeal.main_v332) (b := ReferenceIdeal.main_call33_v7) rfl rfl (by decide +kernel) (by decide +kernel) (by decide +kernel)
  rw [eK, eR, h178 WK WR hP hLin hVal, h190 WK WR hP hLin hVal]
  try rfl
theorem h192 : StableHlo.after (KernelIdeal.Tail.ks1 (F := Ideal)) WK (Proc.devRef .tc KernelIdeal.main_call31_c) = StableHlo.after (ReferenceIdeal.Hand.tlOps1 (F := Ideal)) WR (Proc.devRef .tc ReferenceIdeal.main_call33_c) :=
  by
  have eK := final_nullary (KernelIdeal.Tail.writes_ks1 (F := Ideal)) WK 197 (rest := (KernelIdeal.Tail.ks1 (F := Ideal)).drop 198) (wrest := KernelIdeal.Tail.wr_ks1.drop 198) (y := KernelIdeal.main_call31_c) rfl rfl (by decide +kernel)
  have eR := final_nullary (ReferenceIdeal.Hand.writes_tlOps1 (F := Ideal)) WR 192 (rest := (ReferenceIdeal.Hand.tlOps1 (F := Ideal)).drop 193) (wrest := ReferenceIdeal.Hand.wr_tlOps1.drop 193) (y := ReferenceIdeal.main_call33_c) rfl rfl (by decide +kernel)
  rw [eK, eR]
  try rfl
theorem h193 : StableHlo.after (KernelIdeal.Tail.ks1 (F := Ideal)) WK (Proc.devRef .tc KernelIdeal.main_call31_v9) = StableHlo.after (ReferenceIdeal.Hand.tlOps1 (F := Ideal)) WR (Proc.devRef .tc ReferenceIdeal.main_call33_v9) :=
  by
  have eK := final_unary (KernelIdeal.Tail.writes_ks1 (F := Ideal)) WK 198 (rest := (KernelIdeal.Tail.ks1 (F := Ideal)).drop 199) (wrest := KernelIdeal.Tail.wr_ks1.drop 199) (y := KernelIdeal.main_call31_v9) (x := KernelIdeal.main_call31_c) rfl rfl (by decide +kernel) (by decide +kernel)
  have eR := final_unary (ReferenceIdeal.Hand.writes_tlOps1 (F := Ideal)) WR 193 (rest := (ReferenceIdeal.Hand.tlOps1 (F := Ideal)).drop 194) (wrest := ReferenceIdeal.Hand.wr_tlOps1.drop 194) (y := ReferenceIdeal.main_call33_v9) (x := ReferenceIdeal.main_call33_c) rfl rfl (by decide +kernel) (by decide +kernel)
  rw [eK, eR, h192 WK WR hP hLin hVal]
  try rfl
theorem h194 : StableHlo.after (KernelIdeal.Tail.ks1 (F := Ideal)) WK (Proc.devRef .tc KernelIdeal.main_call31_v10) = StableHlo.after (ReferenceIdeal.Hand.tlOps1 (F := Ideal)) WR (Proc.devRef .tc ReferenceIdeal.main_call33_v10) :=
  by
  have eK := final_binary (KernelIdeal.Tail.writes_ks1 (F := Ideal)) WK 199 (rest := (KernelIdeal.Tail.ks1 (F := Ideal)).drop 200) (wrest := KernelIdeal.Tail.wr_ks1.drop 200) (y := KernelIdeal.main_call31_v10) (a := KernelIdeal.main_call31_v8) (b := KernelIdeal.main_call31_v9) rfl rfl (by decide +kernel) (by decide +kernel) (by decide +kernel)
  have eR := final_binary (ReferenceIdeal.Hand.writes_tlOps1 (F := Ideal)) WR 194 (rest := (ReferenceIdeal.Hand.tlOps1 (F := Ideal)).drop 195) (wrest := ReferenceIdeal.Hand.wr_tlOps1.drop 195) (y := ReferenceIdeal.main_call33_v10) (a := ReferenceIdeal.main_call33_v8) (b := ReferenceIdeal.main_call33_v9) rfl rfl (by decide +kernel) (by decide +kernel) (by decide +kernel)
  rw [eK, eR, h191 WK WR hP hLin hVal, h193 WK WR hP hLin hVal]
  try rfl
theorem h195 : StableHlo.after (KernelIdeal.Tail.ks1 (F := Ideal)) WK (Proc.devRef .tc KernelIdeal.main_call31_v11) = StableHlo.after (ReferenceIdeal.Hand.tlOps1 (F := Ideal)) WR (Proc.devRef .tc ReferenceIdeal.main_call33_v11) :=
  by
  have eK := final_binary (KernelIdeal.Tail.writes_ks1 (F := Ideal)) WK 200 (rest := (KernelIdeal.Tail.ks1 (F := Ideal)).drop 201) (wrest := KernelIdeal.Tail.wr_ks1.drop 201) (y := KernelIdeal.main_call31_v11) (a := KernelIdeal.main_call31_v6) (b := KernelIdeal.main_call31_v10) rfl rfl (by decide +kernel) (by decide +kernel) (by decide +kernel)
  have eR := final_binary (ReferenceIdeal.Hand.writes_tlOps1 (F := Ideal)) WR 195 (rest := (ReferenceIdeal.Hand.tlOps1 (F := Ideal)).drop 196) (wrest := ReferenceIdeal.Hand.wr_tlOps1.drop 196) (y := ReferenceIdeal.main_call33_v11) (a := ReferenceIdeal.main_call33_v6) (b := ReferenceIdeal.main_call33_v10) rfl rfl (by decide +kernel) (by decide +kernel) (by decide +kernel)
  rw [eK, eR, h189 WK WR hP hLin hVal, h194 WK WR hP hLin hVal]
  try rfl
theorem h196 : StableHlo.after (KernelIdeal.Tail.ks1 (F := Ideal)) WK (Proc.devRef .tc KernelIdeal.main_call31_c_0) = StableHlo.after (ReferenceIdeal.Hand.tlOps1 (F := Ideal)) WR (Proc.devRef .tc ReferenceIdeal.main_call33_c_0) :=
  by
  have eK := final_nullary (KernelIdeal.Tail.writes_ks1 (F := Ideal)) WK 201 (rest := (KernelIdeal.Tail.ks1 (F := Ideal)).drop 202) (wrest := KernelIdeal.Tail.wr_ks1.drop 202) (y := KernelIdeal.main_call31_c_0) rfl rfl (by decide +kernel)
  have eR := final_nullary (ReferenceIdeal.Hand.writes_tlOps1 (F := Ideal)) WR 196 (rest := (ReferenceIdeal.Hand.tlOps1 (F := Ideal)).drop 197) (wrest := ReferenceIdeal.Hand.wr_tlOps1.drop 197) (y := ReferenceIdeal.main_call33_c_0) rfl rfl (by decide +kernel)
  rw [eK, eR]
  try rfl
theorem h197 : StableHlo.after (KernelIdeal.Tail.ks1 (F := Ideal)) WK (Proc.devRef .tc KernelIdeal.main_call31_v12) = StableHlo.after (ReferenceIdeal.Hand.tlOps1 (F := Ideal)) WR (Proc.devRef .tc ReferenceIdeal.main_call33_v12) :=
  by
  have eK := final_unary (KernelIdeal.Tail.writes_ks1 (F := Ideal)) WK 202 (rest := (KernelIdeal.Tail.ks1 (F := Ideal)).drop 203) (wrest := KernelIdeal.Tail.wr_ks1.drop 203) (y := KernelIdeal.main_call31_v12) (x := KernelIdeal.main_call31_c_0) rfl rfl (by decide +kernel) (by decide +kernel)
  have eR := final_unary (ReferenceIdeal.Hand.writes_tlOps1 (F := Ideal)) WR 197 (rest := (ReferenceIdeal.Hand.tlOps1 (F := Ideal)).drop 198) (wrest := ReferenceIdeal.Hand.wr_tlOps1.drop 198) (y := ReferenceIdeal.main_call33_v12) (x := ReferenceIdeal.main_call33_c_0) rfl rfl (by decide +kernel) (by decide +kernel)
  rw [eK, eR, h196 WK WR hP hLin hVal]
  try rfl
theorem h198 : StableHlo.after (KernelIdeal.Tail.ks1 (F := Ideal)) WK (Proc.devRef .tc KernelIdeal.main_call31_v13) = StableHlo.after (ReferenceIdeal.Hand.tlOps1 (F := Ideal)) WR (Proc.devRef .tc ReferenceIdeal.main_call33_v13) :=
  by
  have eK := final_binary (KernelIdeal.Tail.writes_ks1 (F := Ideal)) WK 203 (rest := (KernelIdeal.Tail.ks1 (F := Ideal)).drop 204) (wrest := KernelIdeal.Tail.wr_ks1.drop 204) (y := KernelIdeal.main_call31_v13) (a := KernelIdeal.main_call31_v2) (b := KernelIdeal.main_call31_v12) rfl rfl (by decide +kernel) (by decide +kernel) (by decide +kernel)
  have eR := final_binary (ReferenceIdeal.Hand.writes_tlOps1 (F := Ideal)) WR 198 (rest := (ReferenceIdeal.Hand.tlOps1 (F := Ideal)).drop 199) (wrest := ReferenceIdeal.Hand.wr_tlOps1.drop 199) (y := ReferenceIdeal.main_call33_v13) (a := ReferenceIdeal.main_call33_v2) (b := ReferenceIdeal.main_call33_v12) rfl rfl (by decide +kernel) (by decide +kernel) (by decide +kernel)
  rw [eK, eR, h185 WK WR hP hLin hVal, h197 WK WR hP hLin hVal]
  try rfl
theorem h199 : StableHlo.after (KernelIdeal.Tail.ks1 (F := Ideal)) WK (Proc.devRef .tc KernelIdeal.main_v322) = StableHlo.after (ReferenceIdeal.Hand.tlOps1 (F := Ideal)) WR (Proc.devRef .tc ReferenceIdeal.main_v335) :=
  by
  have eK := final_ternary (KernelIdeal.Tail.writes_ks1 (F := Ideal)) WK 204 (rest := (KernelIdeal.Tail.ks1 (F := Ideal)).drop 205) (wrest := KernelIdeal.Tail.wr_ks1.drop 205) (y := KernelIdeal.main_v322) (c := KernelIdeal.main_call31_v11) (a := KernelIdeal.main_call31_v13) (b := KernelIdeal.main_call31_v2) rfl rfl (by decide +kernel) (by decide +kernel) (by decide +kernel) (by decide +kernel)
  have eR := final_ternary (ReferenceIdeal.Hand.writes_tlOps1 (F := Ideal)) WR 199 (rest := (ReferenceIdeal.Hand.tlOps1 (F := Ideal)).drop 200) (wrest := ReferenceIdeal.Hand.wr_tlOps1.drop 200) (y := ReferenceIdeal.main_v335) (c := ReferenceIdeal.main_call33_v11) (a := ReferenceIdeal.main_call33_v13) (b := ReferenceIdeal.main_call33_v2) rfl rfl (by decide +kernel) (by decide +kernel) (by decide +kernel) (by decide +kernel)
  rw [eK, eR, h195 WK WR hP hLin hVal, h198 WK WR hP hLin hVal, h185 WK WR hP hLin hVal]
  try rfl
theorem h200 : StableHlo.after (KernelIdeal.Tail.ks1 (F := Ideal)) WK (Proc.devRef .tc KernelIdeal.main_c_129) = StableHlo.after (ReferenceIdeal.Hand.tlOps1 (F := Ideal)) WR (Proc.devRef .tc ReferenceIdeal.main_c_122) :=
  by
  have eK := final_nullary (KernelIdeal.Tail.writes_ks1 (F := Ideal)) WK 205 (rest := (KernelIdeal.Tail.ks1 (F := Ideal)).drop 206) (wrest := KernelIdeal.Tail.wr_ks1.drop 206) (y := KernelIdeal.main_c_129) rfl rfl (by decide +kernel)
  have eR := final_nullary (ReferenceIdeal.Hand.writes_tlOps1 (F := Ideal)) WR 200 (rest := (ReferenceIdeal.Hand.tlOps1 (F := Ideal)).drop 201) (wrest := ReferenceIdeal.Hand.wr_tlOps1.drop 201) (y := ReferenceIdeal.main_c_122) rfl rfl (by decide +kernel)
  rw [eK, eR]
  try rfl
theorem h201 : StableHlo.after (KernelIdeal.Tail.ks1 (F := Ideal)) WK (Proc.devRef .tc KernelIdeal.main_call32_v0) = StableHlo.after (ReferenceIdeal.Hand.tlOps1 (F := Ideal)) WR (Proc.devRef .tc ReferenceIdeal.main_call34_v0) :=
  by
  have eK := final_unary (KernelIdeal.Tail.writes_ks1 (F := Ideal)) WK 206 (rest := (KernelIdeal.Tail.ks1 (F := Ideal)).drop 207) (wrest := KernelIdeal.Tail.wr_ks1.drop 207) (y := KernelIdeal.main_call32_v0) (x := KernelIdeal.main_c_129) rfl rfl (by decide +kernel) (by decide +kernel)
  have eR := final_unary (ReferenceIdeal.Hand.writes_tlOps1 (F := Ideal)) WR 201 (rest := (ReferenceIdeal.Hand.tlOps1 (F := Ideal)).drop 202) (wrest := ReferenceIdeal.Hand.wr_tlOps1.drop 202) (y := ReferenceIdeal.main_call34_v0) (x := ReferenceIdeal.main_c_122) rfl rfl (by decide +kernel) (by decide +kernel)
  rw [eK, eR, h200 WK WR hP hLin hVal]
  try rfl
theorem h202 : StableHlo.after (KernelIdeal.Tail.ks1 (F := Ideal)) WK (Proc.devRef .tc KernelIdeal.main_call32_v1) = StableHlo.after (ReferenceIdeal.Hand.tlOps1 (F := Ideal)) WR (Proc.devRef .tc ReferenceIdeal.main_call34_v1) :=
  by
  have eK := final_unary (KernelIdeal.Tail.writes_ks1 (F := Ideal)) WK 207 (rest := (KernelIdeal.Tail.ks1 (F := Ideal)).drop 208) (wrest := KernelIdeal.Tail.wr_ks1.drop 208) (y := KernelIdeal.main_call32_v1) (x := KernelIdeal.main_call32_v0) rfl rfl (by decide +kernel) (by decide +kernel)
  have eR := final_unary (ReferenceIdeal.Hand.writes_tlOps1 (F := Ideal)) WR 202 (rest := (ReferenceIdeal.Hand.tlOps1 (F := Ideal)).drop 203) (wrest := ReferenceIdeal.Hand.wr_tlOps1.drop 203) (y := ReferenceIdeal.main_call34_v1) (x := ReferenceIdeal.main_call34_v0) rfl rfl (by decide +kernel) (by decide +kernel)
  rw [eK, eR, h201 WK WR hP hLin hVal]
  try rfl
theorem h203 : StableHlo.after (KernelIdeal.Tail.ks1 (F := Ideal)) WK (Proc.devRef .tc KernelIdeal.main_v323) = StableHlo.after (ReferenceIdeal.Hand.tlOps1 (F := Ideal)) WR (Proc.devRef .tc ReferenceIdeal.main_v336) :=
  by
  have eK := final_ternary (KernelIdeal.Tail.writes_ks1 (F := Ideal)) WK 208 (rest := (KernelIdeal.Tail.ks1 (F := Ideal)).drop 209) (wrest := KernelIdeal.Tail.wr_ks1.drop 209) (y := KernelIdeal.main_v323) (c := KernelIdeal.main_v321) (a := KernelIdeal.main_v322) (b := KernelIdeal.main_call32_v1) rfl rfl (by decide +kernel) (by decide +kernel) (by decide +kernel) (by decide +kernel)
  have eR := final_ternary (ReferenceIdeal.Hand.writes_tlOps1 (F := Ideal)) WR 203 (rest := (ReferenceIdeal.Hand.tlOps1 (F := Ideal)).drop 204) (wrest := ReferenceIdeal.Hand.wr_tlOps1.drop 204) (y := ReferenceIdeal.main_v336) (c := ReferenceIdeal.main_v334) (a := ReferenceIdeal.main_v335) (b := ReferenceIdeal.main_call34_v1) rfl rfl (by decide +kernel) (by decide +kernel) (by decide +kernel) (by decide +kernel)
  rw [eK, eR, h181 WK WR hP hLin hVal, h199 WK WR hP hLin hVal, h202 WK WR hP hLin hVal]
  try rfl
theorem h204 : StableHlo.after (KernelIdeal.Tail.ks1 (F := Ideal)) WK (Proc.devRef .tc KernelIdeal.main_c_130) = StableHlo.after (ReferenceIdeal.Hand.tlOps1 (F := Ideal)) WR (Proc.devRef .tc ReferenceIdeal.main_c_123) :=
  by
  have eK := final_nullary (KernelIdeal.Tail.writes_ks1 (F := Ideal)) WK 209 (rest := (KernelIdeal.Tail.ks1 (F := Ideal)).drop 210) (wrest := KernelIdeal.Tail.wr_ks1.drop 210) (y := KernelIdeal.main_c_130) rfl rfl (by decide +kernel)
  have eR := final_nullary (ReferenceIdeal.Hand.writes_tlOps1 (F := Ideal)) WR 204 (rest := (ReferenceIdeal.Hand.tlOps1 (F := Ideal)).drop 205) (wrest := ReferenceIdeal.Hand.wr_tlOps1.drop 205) (y := ReferenceIdeal.main_c_123) rfl rfl (by decide +kernel)
  rw [eK, eR]
  try rfl
theorem h205 : StableHlo.after (KernelIdeal.Tail.ks1 (F := Ideal)) WK (Proc.devRef .tc KernelIdeal.main_v324) = StableHlo.after (ReferenceIdeal.Hand.tlOps1 (F := Ideal)) WR (Proc.devRef .tc ReferenceIdeal.main_v337) :=
  by
  have eK := final_unary (KernelIdeal.Tail.writes_ks1 (F := Ideal)) WK 210 (rest := (KernelIdeal.Tail.ks1 (F := Ideal)).drop 211) (wrest := KernelIdeal.Tail.wr_ks1.drop 211) (y := KernelIdeal.main_v324) (x := KernelIdeal.main_c_130) rfl rfl (by decide +kernel) (by decide +kernel)
  have eR := final_unary (ReferenceIdeal.Hand.writes_tlOps1 (F := Ideal)) WR 205 (rest := (ReferenceIdeal.Hand.tlOps1 (F := Ideal)).drop 206) (wrest := ReferenceIdeal.Hand.wr_tlOps1.drop 206) (y := ReferenceIdeal.main_v337) (x := ReferenceIdeal.main_c_123) rfl rfl (by decide +kernel) (by decide +kernel)
  rw [eK, eR, h204 WK WR hP hLin hVal]
  try rfl
theorem h206 : StableHlo.after (KernelIdeal.Tail.ks1 (F := Ideal)) WK (Proc.devRef .tc KernelIdeal.main_v325) = StableHlo.after (ReferenceIdeal.Hand.tlOps1 (F := Ideal)) WR (Proc.devRef .tc ReferenceIdeal.main_v338) :=
  by
  have eK := final_binary (KernelIdeal.Tail.writes_ks1 (F := Ideal)) WK 211 (rest := (KernelIdeal.Tail.ks1 (F := Ideal)).drop 212) (wrest := KernelIdeal.Tail.wr_ks1.drop 212) (y := KernelIdeal.main_v325) (a := KernelIdeal.main_v319) (b := KernelIdeal.main_v324) rfl rfl (by decide +kernel) (by decide +kernel) (by decide +kernel)
  have eR := final_binary (ReferenceIdeal.Hand.writes_tlOps1 (F := Ideal)) WR 206 (rest := (ReferenceIdeal.Hand.tlOps1 (F := Ideal)).drop 207) (wrest := ReferenceIdeal.Hand.wr_tlOps1.drop 207) (y := ReferenceIdeal.main_v338) (a := ReferenceIdeal.main_v332) (b := ReferenceIdeal.main_v337) rfl rfl (by decide +kernel) (by decide +kernel) (by decide +kernel)
  rw [eK, eR, h178 WK WR hP hLin hVal, h205 WK WR hP hLin hVal]
  try rfl
theorem h207 : StableHlo.after (KernelIdeal.Tail.ks1 (F := Ideal)) WK (Proc.devRef .tc KernelIdeal.main_c_131) = StableHlo.after (ReferenceIdeal.Hand.tlOps1 (F := Ideal)) WR (Proc.devRef .tc ReferenceIdeal.main_c_124) :=
  by
  have eK := final_nullary (KernelIdeal.Tail.writes_ks1 (F := Ideal)) WK 212 (rest := (KernelIdeal.Tail.ks1 (F := Ideal)).drop 213) (wrest := KernelIdeal.Tail.wr_ks1.drop 213) (y := KernelIdeal.main_c_131) rfl rfl (by decide +kernel)
  have eR := final_nullary (ReferenceIdeal.Hand.writes_tlOps1 (F := Ideal)) WR 207 (rest := (ReferenceIdeal.Hand.tlOps1 (F := Ideal)).drop 208) (wrest := ReferenceIdeal.Hand.wr_tlOps1.drop 208) (y := ReferenceIdeal.main_c_124) rfl rfl (by decide +kernel)
  rw [eK, eR]
  try rfl
theorem h208 : StableHlo.after (KernelIdeal.Tail.ks1 (F := Ideal)) WK (Proc.devRef .tc KernelIdeal.main_call33_v0) = StableHlo.after (ReferenceIdeal.Hand.tlOps1 (F := Ideal)) WR (Proc.devRef .tc ReferenceIdeal.main_call35_v0) :=
  by
  have eK := final_unary (KernelIdeal.Tail.writes_ks1 (F := Ideal)) WK 213 (rest := (KernelIdeal.Tail.ks1 (F := Ideal)).drop 214) (wrest := KernelIdeal.Tail.wr_ks1.drop 214) (y := KernelIdeal.main_call33_v0) (x := KernelIdeal.main_c_131) rfl rfl (by decide +kernel) (by decide +kernel)
  have eR := final_unary (ReferenceIdeal.Hand.writes_tlOps1 (F := Ideal)) WR 208 (rest := (ReferenceIdeal.Hand.tlOps1 (F := Ideal)).drop 209) (wrest := ReferenceIdeal.Hand.wr_tlOps1.drop 209) (y := ReferenceIdeal.main_call35_v0) (x := ReferenceIdeal.main_c_124) rfl rfl (by decide +kernel) (by decide +kernel)
  rw [eK, eR, h207 WK WR hP hLin hVal]
  try rfl
theorem h209 : StableHlo.after (KernelIdeal.Tail.ks1 (F := Ideal)) WK (Proc.devRef .tc KernelIdeal.main_call33_v1) = StableHlo.after (ReferenceIdeal.Hand.tlOps1 (F := Ideal)) WR (Proc.devRef .tc ReferenceIdeal.main_call35_v1) :=
  by
  have eK := final_unary (KernelIdeal.Tail.writes_ks1 (F := Ideal)) WK 214 (rest := (KernelIdeal.Tail.ks1 (F := Ideal)).drop 215) (wrest := KernelIdeal.Tail.wr_ks1.drop 215) (y := KernelIdeal.main_call33_v1) (x := KernelIdeal.main_call33_v0) rfl rfl (by decide +kernel) (by decide +kernel)
  have eR := final_unary (ReferenceIdeal.Hand.writes_tlOps1 (F := Ideal)) WR 209 (rest := (ReferenceIdeal.Hand.tlOps1 (F := Ideal)).drop 210) (wrest := ReferenceIdeal.Hand.wr_tlOps1.drop 210) (y := ReferenceIdeal.main_call35_v1) (x := ReferenceIdeal.main_call35_v0) rfl rfl (by decide +kernel) (by decide +kernel)
  rw [eK, eR, h208 WK WR hP hLin hVal]
  try rfl
theorem h210 : StableHlo.after (KernelIdeal.Tail.ks1 (F := Ideal)) WK (Proc.devRef .tc KernelIdeal.main_call33_v2) = StableHlo.after (ReferenceIdeal.Hand.tlOps1 (F := Ideal)) WR (Proc.devRef .tc ReferenceIdeal.main_call35_v2) :=
  by
  have eK := final_binary (KernelIdeal.Tail.writes_ks1 (F := Ideal)) WK 215 (rest := (KernelIdeal.Tail.ks1 (F := Ideal)).drop 216) (wrest := KernelIdeal.Tail.wr_ks1.drop 216) (y := KernelIdeal.main_call33_v2) (a := KernelIdeal.main_v319) (b := KernelIdeal.main_call33_v1) rfl rfl (by decide +kernel) (by decide +kernel) (by decide +kernel)
  have eR := final_binary (ReferenceIdeal.Hand.writes_tlOps1 (F := Ideal)) WR 210 (rest := (ReferenceIdeal.Hand.tlOps1 (F := Ideal)).drop 211) (wrest := ReferenceIdeal.Hand.wr_tlOps1.drop 211) (y := ReferenceIdeal.main_call35_v2) (a := ReferenceIdeal.main_v332) (b := ReferenceIdeal.main_call35_v1) rfl rfl (by decide +kernel) (by decide +kernel) (by decide +kernel)
  rw [eK, eR, h178 WK WR hP hLin hVal, h209 WK WR hP hLin hVal]
  try rfl
theorem h211 : StableHlo.after (KernelIdeal.Tail.ks1 (F := Ideal)) WK (Proc.devRef .tc KernelIdeal.main_call33_v3) = StableHlo.after (ReferenceIdeal.Hand.tlOps1 (F := Ideal)) WR (Proc.devRef .tc ReferenceIdeal.main_call35_v3) :=
  by
  have eK := final_unary (KernelIdeal.Tail.writes_ks1 (F := Ideal)) WK 216 (rest := (KernelIdeal.Tail.ks1 (F := Ideal)).drop 217) (wrest := KernelIdeal.Tail.wr_ks1.drop 217) (y := KernelIdeal.main_call33_v3) (x := KernelIdeal.main_v319) rfl rfl (by decide +kernel) (by decide +kernel)
  have eR := final_unary (ReferenceIdeal.Hand.writes_tlOps1 (F := Ideal)) WR 211 (rest := (ReferenceIdeal.Hand.tlOps1 (F := Ideal)).drop 212) (wrest := ReferenceIdeal.Hand.wr_tlOps1.drop 212) (y := ReferenceIdeal.main_call35_v3) (x := ReferenceIdeal.main_v332) rfl rfl (by decide +kernel) (by decide +kernel)
  rw [eK, eR, h178 WK WR hP hLin hVal]
  try rfl
theorem h212 : StableHlo.after (KernelIdeal.Tail.ks1 (F := Ideal)) WK (Proc.devRef .tc KernelIdeal.main_call33_v4) = StableHlo.after (ReferenceIdeal.Hand.tlOps1 (F := Ideal)) WR (Proc.devRef .tc ReferenceIdeal.main_call35_v4) :=
  by
  have eK := final_unary (KernelIdeal.Tail.writes_ks1 (F := Ideal)) WK 217 (rest := (KernelIdeal.Tail.ks1 (F := Ideal)).drop 218) (wrest := KernelIdeal.Tail.wr_ks1.drop 218) (y := KernelIdeal.main_call33_v4) (x := KernelIdeal.main_call33_v0) rfl rfl (by decide +kernel) (by decide +kernel)
  have eR := final_unary (ReferenceIdeal.Hand.writes_tlOps1 (F := Ideal)) WR 212 (rest := (ReferenceIdeal.Hand.tlOps1 (F := Ideal)).drop 213) (wrest := ReferenceIdeal.Hand.wr_tlOps1.drop 213) (y := ReferenceIdeal.main_call35_v4) (x := ReferenceIdeal.main_call35_v0) rfl rfl (by decide +kernel) (by decide +kernel)
  rw [eK, eR, h208 WK WR hP hLin hVal]
  try rfl
theorem h213 : StableHlo.after (KernelIdeal.Tail.ks1 (F := Ideal)) WK (Proc.devRef .tc KernelIdeal.main_call33_v5) = StableHlo.after (ReferenceIdeal.Hand.tlOps1 (F := Ideal)) WR (Proc.devRef .tc ReferenceIdeal.main_call35_v5) :=
  by
  have eK := final_unary (KernelIdeal.Tail.writes_ks1 (F := Ideal)) WK 218 (rest := (KernelIdeal.Tail.ks1 (F := Ideal)).drop 219) (wrest := KernelIdeal.Tail.wr_ks1.drop 219) (y := KernelIdeal.main_call33_v5) (x := KernelIdeal.main_call33_v4) rfl rfl (by decide +kernel) (by decide +kernel)
  have eR := final_unary (ReferenceIdeal.Hand.writes_tlOps1 (F := Ideal)) WR 213 (rest := (ReferenceIdeal.Hand.tlOps1 (F := Ideal)).drop 214) (wrest := ReferenceIdeal.Hand.wr_tlOps1.drop 214) (y := ReferenceIdeal.main_call35_v5) (x := ReferenceIdeal.main_call35_v4) rfl rfl (by decide +kernel) (by decide +kernel)
  rw [eK, eR, h212 WK WR hP hLin hVal]
  try rfl
theorem h214 : StableHlo.after (KernelIdeal.Tail.ks1 (F := Ideal)) WK (Proc.devRef .tc KernelIdeal.main_call33_v6) = StableHlo.after (ReferenceIdeal.Hand.tlOps1 (F := Ideal)) WR (Proc.devRef .tc ReferenceIdeal.main_call35_v6) :=
  by
  have eK := final_binary (KernelIdeal.Tail.writes_ks1 (F := Ideal)) WK 219 (rest := (KernelIdeal.Tail.ks1 (F := Ideal)).drop 220) (wrest := KernelIdeal.Tail.wr_ks1.drop 220) (y := KernelIdeal.main_call33_v6) (a := KernelIdeal.main_call33_v3) (b := KernelIdeal.main_call33_v5) rfl rfl (by decide +kernel) (by decide +kernel) (by decide +kernel)
  have eR := final_binary (ReferenceIdeal.Hand.writes_tlOps1 (F := Ideal)) WR 214 (rest := (ReferenceIdeal.Hand.tlOps1 (F := Ideal)).drop 215) (wrest := ReferenceIdeal.Hand.wr_tlOps1.drop 215) (y := ReferenceIdeal.main_call35_v6) (a := ReferenceIdeal.main_call35_v3) (b := ReferenceIdeal.main_call35_v5) rfl rfl (by decide +kernel) (by decide +kernel) (by decide +kernel)
  rw [eK, eR, h211 WK WR hP hLin hVal, h213 WK WR hP hLin hVal]
  try rfl
theorem h215 : StableHlo.after (KernelIdeal.Tail.ks1 (F := Ideal)) WK (Proc.devRef .tc KernelIdeal.main_call33_v7) = StableHlo.after (ReferenceIdeal.Hand.tlOps1 (F := Ideal)) WR (Proc.devRef .tc ReferenceIdeal.main_call35_v7) :=
  by
  have eK := final_unary (KernelIdeal.Tail.writes_ks1 (F := Ideal)) WK 220 (rest := (KernelIdeal.Tail.ks1 (F := Ideal)).drop 221) (wrest := KernelIdeal.Tail.wr_ks1.drop 221) (y := KernelIdeal.main_call33_v7) (x := KernelIdeal.main_call33_v0) rfl rfl (by decide +kernel) (by decide +kernel)
  have eR := final_unary (ReferenceIdeal.Hand.writes_tlOps1 (F := Ideal)) WR 215 (rest := (ReferenceIdeal.Hand.tlOps1 (F := Ideal)).drop 216) (wrest := ReferenceIdeal.Hand.wr_tlOps1.drop 216) (y := ReferenceIdeal.main_call35_v7) (x := ReferenceIdeal.main_call35_v0) rfl rfl (by decide +kernel) (by decide +kernel)
  rw [eK, eR, h208 WK WR hP hLin hVal]
  try rfl
theorem h216 : StableHlo.after (KernelIdeal.Tail.ks1 (F := Ideal)) WK (Proc.devRef .tc KernelIdeal.main_call33_v8) = StableHlo.after (ReferenceIdeal.Hand.tlOps1 (F := Ideal)) WR (Proc.devRef .tc ReferenceIdeal.main_call35_v8) :=
  by
  have eK := final_binary (KernelIdeal.Tail.writes_ks1 (F := Ideal)) WK 221 (rest := (KernelIdeal.Tail.ks1 (F := Ideal)).drop 222) (wrest := KernelIdeal.Tail.wr_ks1.drop 222) (y := KernelIdeal.main_call33_v8) (a := KernelIdeal.main_v319) (b := KernelIdeal.main_call33_v7) rfl rfl (by decide +kernel) (by decide +kernel) (by decide +kernel)
  have eR := final_binary (ReferenceIdeal.Hand.writes_tlOps1 (F := Ideal)) WR 216 (rest := (ReferenceIdeal.Hand.tlOps1 (F := Ideal)).drop 217) (wrest := ReferenceIdeal.Hand.wr_tlOps1.drop 217) (y := ReferenceIdeal.main_call35_v8) (a := ReferenceIdeal.main_v332) (b := ReferenceIdeal.main_call35_v7) rfl rfl (by decide +kernel) (by decide +kernel) (by decide +kernel)
  rw [eK, eR, h178 WK WR hP hLin hVal, h215 WK WR hP hLin hVal]
  try rfl
theorem h217 : StableHlo.after (KernelIdeal.Tail.ks1 (F := Ideal)) WK (Proc.devRef .tc KernelIdeal.main_call33_c) = StableHlo.after (ReferenceIdeal.Hand.tlOps1 (F := Ideal)) WR (Proc.devRef .tc ReferenceIdeal.main_call35_c) :=
  by
  have eK := final_nullary (KernelIdeal.Tail.writes_ks1 (F := Ideal)) WK 222 (rest := (KernelIdeal.Tail.ks1 (F := Ideal)).drop 223) (wrest := KernelIdeal.Tail.wr_ks1.drop 223) (y := KernelIdeal.main_call33_c) rfl rfl (by decide +kernel)
  have eR := final_nullary (ReferenceIdeal.Hand.writes_tlOps1 (F := Ideal)) WR 217 (rest := (ReferenceIdeal.Hand.tlOps1 (F := Ideal)).drop 218) (wrest := ReferenceIdeal.Hand.wr_tlOps1.drop 218) (y := ReferenceIdeal.main_call35_c) rfl rfl (by decide +kernel)
  rw [eK, eR]
  try rfl
theorem h218 : StableHlo.after (KernelIdeal.Tail.ks1 (F := Ideal)) WK (Proc.devRef .tc KernelIdeal.main_call33_v9) = StableHlo.after (ReferenceIdeal.Hand.tlOps1 (F := Ideal)) WR (Proc.devRef .tc ReferenceIdeal.main_call35_v9) :=
  by
  have eK := final_unary (KernelIdeal.Tail.writes_ks1 (F := Ideal)) WK 223 (rest := (KernelIdeal.Tail.ks1 (F := Ideal)).drop 224) (wrest := KernelIdeal.Tail.wr_ks1.drop 224) (y := KernelIdeal.main_call33_v9) (x := KernelIdeal.main_call33_c) rfl rfl (by decide +kernel) (by decide +kernel)
  have eR := final_unary (ReferenceIdeal.Hand.writes_tlOps1 (F := Ideal)) WR 218 (rest := (ReferenceIdeal.Hand.tlOps1 (F := Ideal)).drop 219) (wrest := ReferenceIdeal.Hand.wr_tlOps1.drop 219) (y := ReferenceIdeal.main_call35_v9) (x := ReferenceIdeal.main_call35_c) rfl rfl (by decide +kernel) (by decide +kernel)
  rw [eK, eR, h217 WK WR hP hLin hVal]
  try rfl
theorem h219 : StableHlo.after (KernelIdeal.Tail.ks1 (F := Ideal)) WK (Proc.devRef .tc KernelIdeal.main_call33_v10) = StableHlo.after (ReferenceIdeal.Hand.tlOps1 (F := Ideal)) WR (Proc.devRef .tc ReferenceIdeal.main_call35_v10) :=
  by
  have eK := final_binary (KernelIdeal.Tail.writes_ks1 (F := Ideal)) WK 224 (rest := (KernelIdeal.Tail.ks1 (F := Ideal)).drop 225) (wrest := KernelIdeal.Tail.wr_ks1.drop 225) (y := KernelIdeal.main_call33_v10) (a := KernelIdeal.main_call33_v8) (b := KernelIdeal.main_call33_v9) rfl rfl (by decide +kernel) (by decide +kernel) (by decide +kernel)
  have eR := final_binary (ReferenceIdeal.Hand.writes_tlOps1 (F := Ideal)) WR 219 (rest := (ReferenceIdeal.Hand.tlOps1 (F := Ideal)).drop 220) (wrest := ReferenceIdeal.Hand.wr_tlOps1.drop 220) (y := ReferenceIdeal.main_call35_v10) (a := ReferenceIdeal.main_call35_v8) (b := ReferenceIdeal.main_call35_v9) rfl rfl (by decide +kernel) (by decide +kernel) (by decide +kernel)
  rw [eK, eR, h216 WK WR hP hLin hVal, h218 WK WR hP hLin hVal]
  try rfl
theorem h220 : StableHlo.after (KernelIdeal.Tail.ks1 (F := Ideal)) WK (Proc.devRef .tc KernelIdeal.main_call33_v11) = StableHlo.after (ReferenceIdeal.Hand.tlOps1 (F := Ideal)) WR (Proc.devRef .tc ReferenceIdeal.main_call35_v11) :=
  by
  have eK := final_binary (KernelIdeal.Tail.writes_ks1 (F := Ideal)) WK 225 (rest := (KernelIdeal.Tail.ks1 (F := Ideal)).drop 226) (wrest := KernelIdeal.Tail.wr_ks1.drop 226) (y := KernelIdeal.main_call33_v11) (a := KernelIdeal.main_call33_v6) (b := KernelIdeal.main_call33_v10) rfl rfl (by decide +kernel) (by decide +kernel) (by decide +kernel)
  have eR := final_binary (ReferenceIdeal.Hand.writes_tlOps1 (F := Ideal)) WR 220 (rest := (ReferenceIdeal.Hand.tlOps1 (F := Ideal)).drop 221) (wrest := ReferenceIdeal.Hand.wr_tlOps1.drop 221) (y := ReferenceIdeal.main_call35_v11) (a := ReferenceIdeal.main_call35_v6) (b := ReferenceIdeal.main_call35_v10) rfl rfl (by decide +kernel) (by decide +kernel) (by decide +kernel)
  rw [eK, eR, h214 WK WR hP hLin hVal, h219 WK WR hP hLin hVal]
  try rfl
theorem h221 : StableHlo.after (KernelIdeal.Tail.ks1 (F := Ideal)) WK (Proc.devRef .tc KernelIdeal.main_call33_c_0) = StableHlo.after (ReferenceIdeal.Hand.tlOps1 (F := Ideal)) WR (Proc.devRef .tc ReferenceIdeal.main_call35_c_0) :=
  by
  have eK := final_nullary (KernelIdeal.Tail.writes_ks1 (F := Ideal)) WK 226 (rest := (KernelIdeal.Tail.ks1 (F := Ideal)).drop 227) (wrest := KernelIdeal.Tail.wr_ks1.drop 227) (y := KernelIdeal.main_call33_c_0) rfl rfl (by decide +kernel)
  have eR := final_nullary (ReferenceIdeal.Hand.writes_tlOps1 (F := Ideal)) WR 221 (rest := (ReferenceIdeal.Hand.tlOps1 (F := Ideal)).drop 222) (wrest := ReferenceIdeal.Hand.wr_tlOps1.drop 222) (y := ReferenceIdeal.main_call35_c_0) rfl rfl (by decide +kernel)
  rw [eK, eR]
  try rfl
theorem h222 : StableHlo.after (KernelIdeal.Tail.ks1 (F := Ideal)) WK (Proc.devRef .tc KernelIdeal.main_call33_v12) = StableHlo.after (ReferenceIdeal.Hand.tlOps1 (F := Ideal)) WR (Proc.devRef .tc ReferenceIdeal.main_call35_v12) :=
  by
  have eK := final_unary (KernelIdeal.Tail.writes_ks1 (F := Ideal)) WK 227 (rest := (KernelIdeal.Tail.ks1 (F := Ideal)).drop 228) (wrest := KernelIdeal.Tail.wr_ks1.drop 228) (y := KernelIdeal.main_call33_v12) (x := KernelIdeal.main_call33_c_0) rfl rfl (by decide +kernel) (by decide +kernel)
  have eR := final_unary (ReferenceIdeal.Hand.writes_tlOps1 (F := Ideal)) WR 222 (rest := (ReferenceIdeal.Hand.tlOps1 (F := Ideal)).drop 223) (wrest := ReferenceIdeal.Hand.wr_tlOps1.drop 223) (y := ReferenceIdeal.main_call35_v12) (x := ReferenceIdeal.main_call35_c_0) rfl rfl (by decide +kernel) (by decide +kernel)
  rw [eK, eR, h221 WK WR hP hLin hVal]
  try rfl
theorem h223 : StableHlo.after (KernelIdeal.Tail.ks1 (F := Ideal)) WK (Proc.devRef .tc KernelIdeal.main_call33_v13) = StableHlo.after (ReferenceIdeal.Hand.tlOps1 (F := Ideal)) WR (Proc.devRef .tc ReferenceIdeal.main_call35_v13) :=
  by
  have eK := final_binary (KernelIdeal.Tail.writes_ks1 (F := Ideal)) WK 228 (rest := (KernelIdeal.Tail.ks1 (F := Ideal)).drop 229) (wrest := KernelIdeal.Tail.wr_ks1.drop 229) (y := KernelIdeal.main_call33_v13) (a := KernelIdeal.main_call33_v2) (b := KernelIdeal.main_call33_v12) rfl rfl (by decide +kernel) (by decide +kernel) (by decide +kernel)
  have eR := final_binary (ReferenceIdeal.Hand.writes_tlOps1 (F := Ideal)) WR 223 (rest := (ReferenceIdeal.Hand.tlOps1 (F := Ideal)).drop 224) (wrest := ReferenceIdeal.Hand.wr_tlOps1.drop 224) (y := ReferenceIdeal.main_call35_v13) (a := ReferenceIdeal.main_call35_v2) (b := ReferenceIdeal.main_call35_v12) rfl rfl (by decide +kernel) (by decide +kernel) (by decide +kernel)
  rw [eK, eR, h210 WK WR hP hLin hVal, h222 WK WR hP hLin hVal]
  try rfl
theorem h224 : StableHlo.after (KernelIdeal.Tail.ks1 (F := Ideal)) WK (Proc.devRef .tc KernelIdeal.main_v326) = StableHlo.after (ReferenceIdeal.Hand.tlOps1 (F := Ideal)) WR (Proc.devRef .tc ReferenceIdeal.main_v339) :=
  by
  have eK := final_ternary (KernelIdeal.Tail.writes_ks1 (F := Ideal)) WK 229 (rest := (KernelIdeal.Tail.ks1 (F := Ideal)).drop 230) (wrest := KernelIdeal.Tail.wr_ks1.drop 230) (y := KernelIdeal.main_v326) (c := KernelIdeal.main_call33_v11) (a := KernelIdeal.main_call33_v13) (b := KernelIdeal.main_call33_v2) rfl rfl (by decide +kernel) (by decide +kernel) (by decide +kernel) (by decide +kernel)
  have eR := final_ternary (ReferenceIdeal.Hand.writes_tlOps1 (F := Ideal)) WR 224 (rest := (ReferenceIdeal.Hand.tlOps1 (F := Ideal)).drop 225) (wrest := ReferenceIdeal.Hand.wr_tlOps1.drop 225) (y := ReferenceIdeal.main_v339) (c := ReferenceIdeal.main_call35_v11) (a := ReferenceIdeal.main_call35_v13) (b := ReferenceIdeal.main_call35_v2) rfl rfl (by decide +kernel) (by decide +kernel) (by decide +kernel) (by decide +kernel)
  rw [eK, eR, h220 WK WR hP hLin hVal, h223 WK WR hP hLin hVal, h210 WK WR hP hLin hVal]
  try rfl
theorem h225 : StableHlo.after (KernelIdeal.Tail.ks1 (F := Ideal)) WK (Proc.devRef .tc KernelIdeal.main_c_132) = StableHlo.after (ReferenceIdeal.Hand.tlOps1 (F := Ideal)) WR (Proc.devRef .tc ReferenceIdeal.main_c_125) :=
  by
  have eK := final_nullary (KernelIdeal.Tail.writes_ks1 (F := Ideal)) WK 230 (rest := (KernelIdeal.Tail.ks1 (F := Ideal)).drop 231) (wrest := KernelIdeal.Tail.wr_ks1.drop 231) (y := KernelIdeal.main_c_132) rfl rfl (by decide +kernel)
  have eR := final_nullary (ReferenceIdeal.Hand.writes_tlOps1 (F := Ideal)) WR 225 (rest := (ReferenceIdeal.Hand.tlOps1 (F := Ideal)).drop 226) (wrest := ReferenceIdeal.Hand.wr_tlOps1.drop 226) (y := ReferenceIdeal.main_c_125) rfl rfl (by decide +kernel)
  rw [eK, eR]
  try rfl
theorem h226 : StableHlo.after (KernelIdeal.Tail.ks1 (F := Ideal)) WK (Proc.devRef .tc KernelIdeal.main_call34_v0) = StableHlo.after (ReferenceIdeal.Hand.tlOps1 (F := Ideal)) WR (Proc.devRef .tc ReferenceIdeal.main_call36_v0) :=
  by
  have eK := final_unary (KernelIdeal.Tail.writes_ks1 (F := Ideal)) WK 231 (rest := (KernelIdeal.Tail.ks1 (F := Ideal)).drop 232) (wrest := KernelIdeal.Tail.wr_ks1.drop 232) (y := KernelIdeal.main_call34_v0) (x := KernelIdeal.main_c_132) rfl rfl (by decide +kernel) (by decide +kernel)
  have eR := final_unary (ReferenceIdeal.Hand.writes_tlOps1 (F := Ideal)) WR 226 (rest := (ReferenceIdeal.Hand.tlOps1 (F := Ideal)).drop 227) (wrest := ReferenceIdeal.Hand.wr_tlOps1.drop 227) (y := ReferenceIdeal.main_call36_v0) (x := ReferenceIdeal.main_c_125) rfl rfl (by decide +kernel) (by decide +kernel)
  rw [eK, eR, h225 WK WR hP hLin hVal]
  try rfl
theorem h227 : StableHlo.after (KernelIdeal.Tail.ks1 (F := Ideal)) WK (Proc.devRef .tc KernelIdeal.main_call34_c) = StableHlo.after (ReferenceIdeal.Hand.tlOps1 (F := Ideal)) WR (Proc.devRef .tc ReferenceIdeal.main_call36_c) :=
  by
  have eK := final_nullary (KernelIdeal.Tail.writes_ks1 (F := Ideal)) WK 232 (rest := (KernelIdeal.Tail.ks1 (F := Ideal)).drop 233) (wrest := KernelIdeal.Tail.wr_ks1.drop 233) (y := KernelIdeal.main_call34_c) rfl rfl (by decide +kernel)
  have eR := final_nullary (ReferenceIdeal.Hand.writes_tlOps1 (F := Ideal)) WR 227 (rest := (ReferenceIdeal.Hand.tlOps1 (F := Ideal)).drop 228) (wrest := ReferenceIdeal.Hand.wr_tlOps1.drop 228) (y := ReferenceIdeal.main_call36_c) rfl rfl (by decide +kernel)
  rw [eK, eR]
  try rfl
theorem h228 : StableHlo.after (KernelIdeal.Tail.ks1 (F := Ideal)) WK (Proc.devRef .tc KernelIdeal.main_call34_v1) = StableHlo.after (ReferenceIdeal.Hand.tlOps1 (F := Ideal)) WR (Proc.devRef .tc ReferenceIdeal.main_call36_v1) :=
  by
  have eK := final_binary (KernelIdeal.Tail.writes_ks1 (F := Ideal)) WK 233 (rest := (KernelIdeal.Tail.ks1 (F := Ideal)).drop 234) (wrest := KernelIdeal.Tail.wr_ks1.drop 234) (y := KernelIdeal.main_call34_v1) (a := KernelIdeal.main_call34_v0) (b := KernelIdeal.main_call34_c) rfl rfl (by decide +kernel) (by decide +kernel) (by decide +kernel)
  have eR := final_binary (ReferenceIdeal.Hand.writes_tlOps1 (F := Ideal)) WR 228 (rest := (ReferenceIdeal.Hand.tlOps1 (F := Ideal)).drop 229) (wrest := ReferenceIdeal.Hand.wr_tlOps1.drop 229) (y := ReferenceIdeal.main_call36_v1) (a := ReferenceIdeal.main_call36_v0) (b := ReferenceIdeal.main_call36_c) rfl rfl (by decide +kernel) (by decide +kernel) (by decide +kernel)
  rw [eK, eR, h226 WK WR hP hLin hVal, h227 WK WR hP hLin hVal]
  try rfl
theorem h229 : StableHlo.after (KernelIdeal.Tail.ks1 (F := Ideal)) WK (Proc.devRef .tc KernelIdeal.main_call34_c_0) = StableHlo.after (ReferenceIdeal.Hand.tlOps1 (F := Ideal)) WR (Proc.devRef .tc ReferenceIdeal.main_call36_c_0) :=
  by
  have eK := final_nullary (KernelIdeal.Tail.writes_ks1 (F := Ideal)) WK 234 (rest := (KernelIdeal.Tail.ks1 (F := Ideal)).drop 235) (wrest := KernelIdeal.Tail.wr_ks1.drop 235) (y := KernelIdeal.main_call34_c_0) rfl rfl (by decide +kernel)
  have eR := final_nullary (ReferenceIdeal.Hand.writes_tlOps1 (F := Ideal)) WR 229 (rest := (ReferenceIdeal.Hand.tlOps1 (F := Ideal)).drop 230) (wrest := ReferenceIdeal.Hand.wr_tlOps1.drop 230) (y := ReferenceIdeal.main_call36_c_0) rfl rfl (by decide +kernel)
  rw [eK, eR]
  try rfl
theorem h230 : StableHlo.after (KernelIdeal.Tail.ks1 (F := Ideal)) WK (Proc.devRef .tc KernelIdeal.main_call34_v2) = StableHlo.after (ReferenceIdeal.Hand.tlOps1 (F := Ideal)) WR (Proc.devRef .tc ReferenceIdeal.main_call36_v2) :=
  by
  have eK := final_ternary (KernelIdeal.Tail.writes_ks1 (F := Ideal)) WK 235 (rest := (KernelIdeal.Tail.ks1 (F := Ideal)).drop 236) (wrest := KernelIdeal.Tail.wr_ks1.drop 236) (y := KernelIdeal.main_call34_v2) (c := KernelIdeal.main_call34_v1) (a := KernelIdeal.main_call34_c_0) (b := KernelIdeal.main_call34_v0) rfl rfl (by decide +kernel) (by decide +kernel) (by decide +kernel) (by decide +kernel)
  have eR := final_ternary (ReferenceIdeal.Hand.writes_tlOps1 (F := Ideal)) WR 230 (rest := (ReferenceIdeal.Hand.tlOps1 (F := Ideal)).drop 231) (wrest := ReferenceIdeal.Hand.wr_tlOps1.drop 231) (y := ReferenceIdeal.main_call36_v2) (c := ReferenceIdeal.main_call36_v1) (a := ReferenceIdeal.main_call36_c_0) (b := ReferenceIdeal.main_call36_v0) rfl rfl (by decide +kernel) (by decide +kernel) (by decide +kernel) (by decide +kernel)
  rw [eK, eR, h228 WK WR hP hLin hVal, h229 WK WR hP hLin hVal, h226 WK WR hP hLin hVal]
  try rfl
theorem h231 : StableHlo.after (KernelIdeal.Tail.ks1 (F := Ideal)) WK (Proc.devRef .tc KernelIdeal.main_call34_v3) = StableHlo.after (ReferenceIdeal.Hand.tlOps1 (F := Ideal)) WR (Proc.devRef .tc ReferenceIdeal.main_call36_v3) :=
  by
  have eK := final_unary (KernelIdeal.Tail.writes_ks1 (F := Ideal)) WK 236 (rest := (KernelIdeal.Tail.ks1 (F := Ideal)).drop 237) (wrest := KernelIdeal.Tail.wr_ks1.drop 237) (y := KernelIdeal.main_call34_v3) (x := KernelIdeal.main_call34_call0.v0.ref) rfl rfl (by decide +kernel) (by decide +kernel)
  have eR := final_unary (ReferenceIdeal.Hand.writes_tlOps1 (F := Ideal)) WR 231 (rest := (ReferenceIdeal.Hand.tlOps1 (F := Ideal)).drop 232) (wrest := ReferenceIdeal.Hand.wr_tlOps1.drop 232) (y := ReferenceIdeal.main_call36_v3) (x := ReferenceIdeal.main_call36_v2) rfl rfl (by decide +kernel) (by decide +kernel)
  rw [eK, eR, h230 WK WR hP hLin hVal]
  try rfl
theorem h232 : StableHlo.after (KernelIdeal.Tail.ks1 (F := Ideal)) WK (Proc.devRef .tc KernelIdeal.main_call34_v4) = StableHlo.after (ReferenceIdeal.Hand.tlOps1 (F := Ideal)) WR (Proc.devRef .tc ReferenceIdeal.main_call36_v4) :=
  by
  have eK := final_binary (KernelIdeal.Tail.writes_ks1 (F := Ideal)) WK 237 (rest := (KernelIdeal.Tail.ks1 (F := Ideal)).drop 238) (wrest := KernelIdeal.Tail.wr_ks1.drop 238) (y := KernelIdeal.main_call34_v4) (a := KernelIdeal.main_v326) (b := KernelIdeal.main_call34_v3) rfl rfl (by decide +kernel) (by decide +kernel) (by decide +kernel)
  have eR := final_binary (ReferenceIdeal.Hand.writes_tlOps1 (F := Ideal)) WR 232 (rest := (ReferenceIdeal.Hand.tlOps1 (F := Ideal)).drop 233) (wrest := ReferenceIdeal.Hand.wr_tlOps1.drop 233) (y := ReferenceIdeal.main_call36_v4) (a := ReferenceIdeal.main_v339) (b := ReferenceIdeal.main_call36_v3) rfl rfl (by decide +kernel) (by decide +kernel) (by decide +kernel)
  rw [eK, eR, h224 WK WR hP hLin hVal, h231 WK WR hP hLin hVal]
  try rfl
theorem h233 : StableHlo.after (KernelIdeal.Tail.ks1 (F := Ideal)) WK (Proc.devRef .tc KernelIdeal.main_call34_c_1) = StableHlo.after (ReferenceIdeal.Hand.tlOps1 (F := Ideal)) WR (Proc.devRef .tc ReferenceIdeal.main_call36_c_1) :=
  by
  have eK := final_nullary (KernelIdeal.Tail.writes_ks1 (F := Ideal)) WK 238 (rest := (KernelIdeal.Tail.ks1 (F := Ideal)).drop 239) (wrest := KernelIdeal.Tail.wr_ks1.drop 239) (y := KernelIdeal.main_call34_c_1) rfl rfl (by decide +kernel)
  have eR := final_nullary (ReferenceIdeal.Hand.writes_tlOps1 (F := Ideal)) WR 233 (rest := (ReferenceIdeal.Hand.tlOps1 (F := Ideal)).drop 234) (wrest := ReferenceIdeal.Hand.wr_tlOps1.drop 234) (y := ReferenceIdeal.main_call36_c_1) rfl rfl (by decide +kernel)
  rw [eK, eR]
  try rfl
theorem h234 : StableHlo.after (KernelIdeal.Tail.ks1 (F := Ideal)) WK (Proc.devRef .tc KernelIdeal.main_call34_v5) = StableHlo.after (ReferenceIdeal.Hand.tlOps1 (F := Ideal)) WR (Proc.devRef .tc ReferenceIdeal.main_call36_v5) :=
  by
  have eK := final_unary (KernelIdeal.Tail.writes_ks1 (F := Ideal)) WK 239 (rest := (KernelIdeal.Tail.ks1 (F := Ideal)).drop 240) (wrest := KernelIdeal.Tail.wr_ks1.drop 240) (y := KernelIdeal.main_call34_v5) (x := KernelIdeal.main_call34_c_1) rfl rfl (by decide +kernel) (by decide +kernel)
  have eR := final_unary (ReferenceIdeal.Hand.writes_tlOps1 (F := Ideal)) WR 234 (rest := (ReferenceIdeal.Hand.tlOps1 (F := Ideal)).drop 235) (wrest := ReferenceIdeal.Hand.wr_tlOps1.drop 235) (y := ReferenceIdeal.main_call36_v5) (x := ReferenceIdeal.main_call36_c_1) rfl rfl (by decide +kernel) (by decide +kernel)
  rw [eK, eR, h233 WK WR hP hLin hVal]
  try rfl
theorem h235 : StableHlo.after (KernelIdeal.Tail.ks1 (F := Ideal)) WK (Proc.devRef .tc KernelIdeal.main_call34_v6) = StableHlo.after (ReferenceIdeal.Hand.tlOps1 (F := Ideal)) WR (Proc.devRef .tc ReferenceIdeal.main_call36_v6) :=
  by
  have eK := final_binary (KernelIdeal.Tail.writes_ks1 (F := Ideal)) WK 240 (rest := (KernelIdeal.Tail.ks1 (F := Ideal)).drop 241) (wrest := KernelIdeal.Tail.wr_ks1.drop 241) (y := KernelIdeal.main_call34_v6) (a := KernelIdeal.main_call34_v4) (b := KernelIdeal.main_call34_v5) rfl rfl (by decide +kernel) (by decide +kernel) (by decide +kernel)
  have eR := final_binary (ReferenceIdeal.Hand.writes_tlOps1 (F := Ideal)) WR 235 (rest := (ReferenceIdeal.Hand.tlOps1 (F := Ideal)).drop 236) (wrest := ReferenceIdeal.Hand.wr_tlOps1.drop 236) (y := ReferenceIdeal.main_call36_v6) (a := ReferenceIdeal.main_call36_v4) (b := ReferenceIdeal.main_call36_v5) rfl rfl (by decide +kernel) (by decide +kernel) (by decide +kernel)
  rw [eK, eR, h232 WK WR hP hLin hVal, h234 WK WR hP hLin hVal]
  try rfl
theorem h236 : StableHlo.after (KernelIdeal.Tail.ks1 (F := Ideal)) WK (Proc.devRef .tc KernelIdeal.main_call34_c_2) = StableHlo.after (ReferenceIdeal.Hand.tlOps1 (F := Ideal)) WR (Proc.devRef .tc ReferenceIdeal.main_call36_c_2) :=
  by
  have eK := final_nullary (KernelIdeal.Tail.writes_ks1 (F := Ideal)) WK 241 (rest := (KernelIdeal.Tail.ks1 (F := Ideal)).drop 242) (wrest := KernelIdeal.Tail.wr_ks1.drop 242) (y := KernelIdeal.main_call34_c_2) rfl rfl (by decide +kernel)
  have eR := final_nullary (ReferenceIdeal.Hand.writes_tlOps1 (F := Ideal)) WR 236 (rest := (ReferenceIdeal.Hand.tlOps1 (F := Ideal)).drop 237) (wrest := ReferenceIdeal.Hand.wr_tlOps1.drop 237) (y := ReferenceIdeal.main_call36_c_2) rfl rfl (by decide +kernel)
  rw [eK, eR]
  try rfl
theorem h237 : StableHlo.after (KernelIdeal.Tail.ks1 (F := Ideal)) WK (Proc.devRef .tc KernelIdeal.main_call34_v7) = StableHlo.after (ReferenceIdeal.Hand.tlOps1 (F := Ideal)) WR (Proc.devRef .tc ReferenceIdeal.main_call36_v7) :=
  by
  have eK := final_unary (KernelIdeal.Tail.writes_ks1 (F := Ideal)) WK 242 (rest := (KernelIdeal.Tail.ks1 (F := Ideal)).drop 243) (wrest := KernelIdeal.Tail.wr_ks1.drop 243) (y := KernelIdeal.main_call34_v7) (x := KernelIdeal.main_call34_c_2) rfl rfl (by decide +kernel) (by decide +kernel)
  have eR := final_unary (ReferenceIdeal.Hand.writes_tlOps1 (F := Ideal)) WR 237 (rest := (ReferenceIdeal.Hand.tlOps1 (F := Ideal)).drop 238) (wrest := ReferenceIdeal.Hand.wr_tlOps1.drop 238) (y := ReferenceIdeal.main_call36_v7) (x := ReferenceIdeal.main_call36_c_2) rfl rfl (by decide +kernel) (by decide +kernel)
  rw [eK, eR, h236 WK WR hP hLin hVal]
  try rfl
theorem h238 : StableHlo.after (KernelIdeal.Tail.ks1 (F := Ideal)) WK (Proc.devRef .tc KernelIdeal.main_call34_v8) = StableHlo.after (ReferenceIdeal.Hand.tlOps1 (F := Ideal)) WR (Proc.devRef .tc ReferenceIdeal.main_call36_v8) :=
  by
  have eK := final_binary (KernelIdeal.Tail.writes_ks1 (F := Ideal)) WK 243 (rest := (KernelIdeal.Tail.ks1 (F := Ideal)).drop 244) (wrest := KernelIdeal.Tail.wr_ks1.drop 244) (y := KernelIdeal.main_call34_v8) (a := KernelIdeal.main_call34_v4) (b := KernelIdeal.main_call34_v7) rfl rfl (by decide +kernel) (by decide +kernel) (by decide +kernel)
  have eR := final_binary (ReferenceIdeal.Hand.writes_tlOps1 (F := Ideal)) WR 238 (rest := (ReferenceIdeal.Hand.tlOps1 (F := Ideal)).drop 239) (wrest := ReferenceIdeal.Hand.wr_tlOps1.drop 239) (y := ReferenceIdeal.main_call36_v8) (a := ReferenceIdeal.main_call36_v4) (b := ReferenceIdeal.main_call36_v7) rfl rfl (by decide +kernel) (by decide +kernel) (by decide +kernel)
  rw [eK, eR, h232 WK WR hP hLin hVal, h237 WK WR hP hLin hVal]
  try rfl
theorem h239 : StableHlo.after (KernelIdeal.Tail.ks1 (F := Ideal)) WK (Proc.devRef .tc KernelIdeal.main_call34_c_3) = StableHlo.after (ReferenceIdeal.Hand.tlOps1 (F := Ideal)) WR (Proc.devRef .tc ReferenceIdeal.main_call36_c_3) :=
  by
  have eK := final_nullary (KernelIdeal.Tail.writes_ks1 (F := Ideal)) WK 244 (rest := (KernelIdeal.Tail.ks1 (F := Ideal)).drop 245) (wrest := KernelIdeal.Tail.wr_ks1.drop 245) (y := KernelIdeal.main_call34_c_3) rfl rfl (by decide +kernel)
  have eR := final_nullary (ReferenceIdeal.Hand.writes_tlOps1 (F := Ideal)) WR 239 (rest := (ReferenceIdeal.Hand.tlOps1 (F := Ideal)).drop 240) (wrest := ReferenceIdeal.Hand.wr_tlOps1.drop 240) (y := ReferenceIdeal.main_call36_c_3) rfl rfl (by decide +kernel)
  rw [eK, eR]
  try rfl
theorem h240 : StableHlo.after (KernelIdeal.Tail.ks1 (F := Ideal)) WK (Proc.devRef .tc KernelIdeal.main_call34_v9) = StableHlo.after (ReferenceIdeal.Hand.tlOps1 (F := Ideal)) WR (Proc.devRef .tc ReferenceIdeal.main_call36_v9) :=
  by
  have eK := final_binary (KernelIdeal.Tail.writes_ks1 (F := Ideal)) WK 245 (rest := (KernelIdeal.Tail.ks1 (F := Ideal)).drop 246) (wrest := KernelIdeal.Tail.wr_ks1.drop 246) (y := KernelIdeal.main_call34_v9) (a := KernelIdeal.main_call34_call0.v0.ref) (b := KernelIdeal.main_call34_c_3) rfl rfl (by decide +kernel) (by decide +kernel) (by decide +kernel)
  have eR := final_binary (ReferenceIdeal.Hand.writes_tlOps1 (F := Ideal)) WR 240 (rest := (ReferenceIdeal.Hand.tlOps1 (F := Ideal)).drop 241) (wrest := ReferenceIdeal.Hand.wr_tlOps1.drop 241) (y := ReferenceIdeal.main_call36_v9) (a := ReferenceIdeal.main_call36_v2) (b := ReferenceIdeal.main_call36_c_3) rfl rfl (by decide +kernel) (by decide +kernel) (by decide +kernel)
  rw [eK, eR, h230 WK WR hP hLin hVal, h239 WK WR hP hLin hVal]
  try rfl
theorem h241 : StableHlo.after (KernelIdeal.Tail.ks1 (F := Ideal)) WK (Proc.devRef .tc KernelIdeal.main_call34_v10) = StableHlo.after (ReferenceIdeal.Hand.tlOps1 (F := Ideal)) WR (Proc.devRef .tc ReferenceIdeal.main_call36_v10) :=
  by
  have eK := final_unary (KernelIdeal.Tail.writes_ks1 (F := Ideal)) WK 246 (rest := (KernelIdeal.Tail.ks1 (F := Ideal)).drop 247) (wrest := KernelIdeal.Tail.wr_ks1.drop 247) (y := KernelIdeal.main_call34_v10) (x := KernelIdeal.main_call34_v9) rfl rfl (by decide +kernel) (by decide +kernel)
  have eR := final_unary (ReferenceIdeal.Hand.writes_tlOps1 (F := Ideal)) WR 241 (rest := (ReferenceIdeal.Hand.tlOps1 (F := Ideal)).drop 242) (wrest := ReferenceIdeal.Hand.wr_tlOps1.drop 242) (y := ReferenceIdeal.main_call36_v10) (x := ReferenceIdeal.main_call36_v9) rfl rfl (by decide +kernel) (by decide +kernel)
  rw [eK, eR, h240 WK WR hP hLin hVal]
  try rfl
theorem h242 : StableHlo.after (KernelIdeal.Tail.ks1 (F := Ideal)) WK (Proc.devRef .tc KernelIdeal.main_call34_v11) = StableHlo.after (ReferenceIdeal.Hand.tlOps1 (F := Ideal)) WR (Proc.devRef .tc ReferenceIdeal.main_call36_v11) :=
  by
  have eK := final_binary (KernelIdeal.Tail.writes_ks1 (F := Ideal)) WK 247 (rest := (KernelIdeal.Tail.ks1 (F := Ideal)).drop 248) (wrest := KernelIdeal.Tail.wr_ks1.drop 248) (y := KernelIdeal.main_call34_v11) (a := KernelIdeal.main_call34_v8) (b := KernelIdeal.main_call34_v10) rfl rfl (by decide +kernel) (by decide +kernel) (by decide +kernel)
  have eR := final_binary (ReferenceIdeal.Hand.writes_tlOps1 (F := Ideal)) WR 242 (rest := (ReferenceIdeal.Hand.tlOps1 (F := Ideal)).drop 243) (wrest := ReferenceIdeal.Hand.wr_tlOps1.drop 243) (y := ReferenceIdeal.main_call36_v11) (a := ReferenceIdeal.main_call36_v8) (b := ReferenceIdeal.main_call36_v10) rfl rfl (by decide +kernel) (by decide +kernel) (by decide +kernel)
  rw [eK, eR, h238 WK WR hP hLin hVal, h241 WK WR hP hLin hVal]
  try rfl
theorem h243 : StableHlo.after (KernelIdeal.Tail.ks1 (F := Ideal)) WK (Proc.devRef .tc KernelIdeal.main_call34_v12) = StableHlo.after (ReferenceIdeal.Hand.tlOps1 (F := Ideal)) WR (Proc.devRef .tc ReferenceIdeal.main_call36_v12) :=
  by
  have eK := final_binary (KernelIdeal.Tail.writes_ks1 (F := Ideal)) WK 248 (rest := (KernelIdeal.Tail.ks1 (F := Ideal)).drop 249) (wrest := KernelIdeal.Tail.wr_ks1.drop 249) (y := KernelIdeal.main_call34_v12) (a := KernelIdeal.main_call34_v11) (b := KernelIdeal.main_call34_v6) rfl rfl (by decide +kernel) (by decide +kernel) (by decide +kernel)
  have eR := final_binary (ReferenceIdeal.Hand.writes_tlOps1 (F := Ideal)) WR 243 (rest := (ReferenceIdeal.Hand.tlOps1 (F := Ideal)).drop 244) (wrest := ReferenceIdeal.Hand.wr_tlOps1.drop 244) (y := ReferenceIdeal.main_call36_v12) (a := ReferenceIdeal.main_call36_v11) (b := ReferenceIdeal.main_call36_v6) rfl rfl (by decide +kernel) (by decide +kernel) (by decide +kernel)
  rw [eK, eR, h242 WK WR hP hLin hVal, h235 WK WR hP hLin hVal]
  try rfl
theorem h244 : StableHlo.after (KernelIdeal.Tail.ks1 (F := Ideal)) WK (Proc.devRef .tc KernelIdeal.main_call34_v13) = StableHlo.after (ReferenceIdeal.Hand.tlOps1 (F := Ideal)) WR (Proc.devRef .tc ReferenceIdeal.main_call36_v13) :=
  by
  have eK := final_unary (KernelIdeal.Tail.writes_ks1 (F := Ideal)) WK 249 (rest := (KernelIdeal.Tail.ks1 (F := Ideal)).drop 250) (wrest := KernelIdeal.Tail.wr_ks1.drop 250) (y := KernelIdeal.main_call34_v13) (x := KernelIdeal.main_call34_call0.v0.ref) rfl rfl (by decide +kernel) (by decide +kernel)
  have eR := final_unary (ReferenceIdeal.Hand.writes_tlOps1 (F := Ideal)) WR 244 (rest := (ReferenceIdeal.Hand.tlOps1 (F := Ideal)).drop 245) (wrest := ReferenceIdeal.Hand.wr_tlOps1.drop 245) (y := ReferenceIdeal.main_call36_v13) (x := ReferenceIdeal.main_call36_v2) rfl rfl (by decide +kernel) (by decide +kernel)
  rw [eK, eR, h230 WK WR hP hLin hVal]
  try rfl
theorem h245 : StableHlo.after (KernelIdeal.Tail.ks1 (F := Ideal)) WK (Proc.devRef .tc KernelIdeal.main_call34_v14) = StableHlo.after (ReferenceIdeal.Hand.tlOps1 (F := Ideal)) WR (Proc.devRef .tc ReferenceIdeal.main_call36_v14) :=
  by
  have eK := final_binary (KernelIdeal.Tail.writes_ks1 (F := Ideal)) WK 250 (rest := (KernelIdeal.Tail.ks1 (F := Ideal)).drop 251) (wrest := KernelIdeal.Tail.wr_ks1.drop 251) (y := KernelIdeal.main_call34_v14) (a := KernelIdeal.main_call34_v4) (b := KernelIdeal.main_call34_v13) rfl rfl (by decide +kernel) (by decide +kernel) (by decide +kernel)
  have eR := final_binary (ReferenceIdeal.Hand.writes_tlOps1 (F := Ideal)) WR 245 (rest := (ReferenceIdeal.Hand.tlOps1 (F := Ideal)).drop 246) (wrest := ReferenceIdeal.Hand.wr_tlOps1.drop 246) (y := ReferenceIdeal.main_call36_v14) (a := ReferenceIdeal.main_call36_v4) (b := ReferenceIdeal.main_call36_v13) rfl rfl (by decide +kernel) (by decide +kernel) (by decide +kernel)
  rw [eK, eR, h232 WK WR hP hLin hVal, h244 WK WR hP hLin hVal]
  try rfl
theorem h246 : StableHlo.after (KernelIdeal.Tail.ks1 (F := Ideal)) WK (Proc.devRef .tc KernelIdeal.main_v327) = StableHlo.after (ReferenceIdeal.Hand.tlOps1 (F := Ideal)) WR (Proc.devRef .tc ReferenceIdeal.main_v340) :=
  by
  have eK := final_ternary (KernelIdeal.Tail.writes_ks1 (F := Ideal)) WK 251 (rest := (KernelIdeal.Tail.ks1 (F := Ideal)).drop 252) (wrest := KernelIdeal.Tail.wr_ks1.drop 252) (y := KernelIdeal.main_v327) (c := KernelIdeal.main_call34_v12) (a := KernelIdeal.main_call34_v14) (b := KernelIdeal.main_call34_v4) rfl rfl (by decide +kernel) (by decide +kernel) (by decide +kernel) (by decide +kernel)
  have eR := final_ternary (ReferenceIdeal.Hand.writes_tlOps1 (F := Ideal)) WR 246 (rest := (ReferenceIdeal.Hand.tlOps1 (F := Ideal)).drop 247) (wrest := ReferenceIdeal.Hand.wr_tlOps1.drop 247) (y := ReferenceIdeal.main_v340) (c := ReferenceIdeal.main_call36_v12) (a := ReferenceIdeal.main_call36_v14) (b := ReferenceIdeal.main_call36_v4) rfl rfl (by decide +kernel) (by decide +kernel) (by decide +kernel) (by decide +kernel)
  rw [eK, eR, h243 WK WR hP hLin hVal, h245 WK WR hP hLin hVal, h232 WK WR hP hLin hVal]
  try rfl
theorem h247 : StableHlo.after (KernelIdeal.Tail.ks1 (F := Ideal)) WK (Proc.devRef .tc KernelIdeal.main_c_133) = StableHlo.after (ReferenceIdeal.Hand.tlOps1 (F := Ideal)) WR (Proc.devRef .tc ReferenceIdeal.main_c_126) :=
  by
  have eK := final_nullary (KernelIdeal.Tail.writes_ks1 (F := Ideal)) WK 252 (rest := (KernelIdeal.Tail.ks1 (F := Ideal)).drop 253) (wrest := KernelIdeal.Tail.wr_ks1.drop 253) (y := KernelIdeal.main_c_133) rfl rfl (by decide +kernel)
  have eR := final_nullary (ReferenceIdeal.Hand.writes_tlOps1 (F := Ideal)) WR 247 (rest := (ReferenceIdeal.Hand.tlOps1 (F := Ideal)).drop 248) (wrest := ReferenceIdeal.Hand.wr_tlOps1.drop 248) (y := ReferenceIdeal.main_c_126) rfl rfl (by decide +kernel)
  rw [eK, eR]
  try rfl
theorem h248 : StableHlo.after (KernelIdeal.Tail.ks1 (F := Ideal)) WK (Proc.devRef .tc KernelIdeal.main_call35_v0) = StableHlo.after (ReferenceIdeal.Hand.tlOps1 (F := Ideal)) WR (Proc.devRef .tc ReferenceIdeal.main_call37_v0) :=
  by
  have eK := final_unary (KernelIdeal.Tail.writes_ks1 (F := Ideal)) WK 253 (rest := (KernelIdeal.Tail.ks1 (F := Ideal)).drop 254) (wrest := KernelIdeal.Tail.wr_ks1.drop 254) (y := KernelIdeal.main_call35_v0) (x := KernelIdeal.main_c_133) rfl rfl (by decide +kernel) (by decide +kernel)
  have eR := final_unary (ReferenceIdeal.Hand.writes_tlOps1 (F := Ideal)) WR 248 (rest := (ReferenceIdeal.Hand.tlOps1 (F := Ideal)).drop 249) (wrest := ReferenceIdeal.Hand.wr_tlOps1.drop 249) (y := ReferenceIdeal.main_call37_v0) (x := ReferenceIdeal.main_c_126) rfl rfl (by decide +kernel) (by decide +kernel)
  rw [eK, eR, h247 WK WR hP hLin hVal]
  try rfl
theorem h249 : StableHlo.after (KernelIdeal.Tail.ks1 (F := Ideal)) WK (Proc.devRef .tc KernelIdeal.main_call35_v1) = StableHlo.after (ReferenceIdeal.Hand.tlOps1 (F := Ideal)) WR (Proc.devRef .tc ReferenceIdeal.main_call37_v1) :=
  by
  have eK := final_unary (KernelIdeal.Tail.writes_ks1 (F := Ideal)) WK 254 (rest := (KernelIdeal.Tail.ks1 (F := Ideal)).drop 255) (wrest := KernelIdeal.Tail.wr_ks1.drop 255) (y := KernelIdeal.main_call35_v1) (x := KernelIdeal.main_call35_v0) rfl rfl (by decide +kernel) (by decide +kernel)
  have eR := final_unary (ReferenceIdeal.Hand.writes_tlOps1 (F := Ideal)) WR 249 (rest := (ReferenceIdeal.Hand.tlOps1 (F := Ideal)).drop 250) (wrest := ReferenceIdeal.Hand.wr_tlOps1.drop 250) (y := ReferenceIdeal.main_call37_v1) (x := ReferenceIdeal.main_call37_v0) rfl rfl (by decide +kernel) (by decide +kernel)
  rw [eK, eR, h248 WK WR hP hLin hVal]
  try rfl
theorem h250 : StableHlo.after (KernelIdeal.Tail.ks1 (F := Ideal)) WK (Proc.devRef .tc KernelIdeal.main_v328) = StableHlo.after (ReferenceIdeal.Hand.tlOps1 (F := Ideal)) WR (Proc.devRef .tc ReferenceIdeal.main_v341) :=
  by
  have eK := final_ternary (KernelIdeal.Tail.writes_ks1 (F := Ideal)) WK 255 (rest := (KernelIdeal.Tail.ks1 (F := Ideal)).drop 256) (wrest := KernelIdeal.Tail.wr_ks1.drop 256) (y := KernelIdeal.main_v328) (c := KernelIdeal.main_v325) (a := KernelIdeal.main_v327) (b := KernelIdeal.main_call35_v1) rfl rfl (by decide +kernel) (by decide +kernel) (by decide +kernel) (by decide +kernel)
  have eR := final_ternary (ReferenceIdeal.Hand.writes_tlOps1 (F := Ideal)) WR 250 (rest := (ReferenceIdeal.Hand.tlOps1 (F := Ideal)).drop 251) (wrest := ReferenceIdeal.Hand.wr_tlOps1.drop 251) (y := ReferenceIdeal.main_v341) (c := ReferenceIdeal.main_v338) (a := ReferenceIdeal.main_v340) (b := ReferenceIdeal.main_call37_v1) rfl rfl (by decide +kernel) (by decide +kernel) (by decide +kernel) (by decide +kernel)
  rw [eK, eR, h206 WK WR hP hLin hVal, h246 WK WR hP hLin hVal, h249 WK WR hP hLin hVal]
  try rfl
theorem h251 : StableHlo.after (KernelIdeal.Tail.ks1 (F := Ideal)) WK (Proc.devRef .tc KernelIdeal.main_c_134) = StableHlo.after (ReferenceIdeal.Hand.tlOps1 (F := Ideal)) WR (Proc.devRef .tc ReferenceIdeal.main_c_127) :=
  by
  have eK := final_nullary (KernelIdeal.Tail.writes_ks1 (F := Ideal)) WK 256 (rest := (KernelIdeal.Tail.ks1 (F := Ideal)).drop 257) (wrest := KernelIdeal.Tail.wr_ks1.drop 257) (y := KernelIdeal.main_c_134) rfl rfl (by decide +kernel)
  have eR := final_nullary (ReferenceIdeal.Hand.writes_tlOps1 (F := Ideal)) WR 251 (rest := (ReferenceIdeal.Hand.tlOps1 (F := Ideal)).drop 252) (wrest := ReferenceIdeal.Hand.wr_tlOps1.drop 252) (y := ReferenceIdeal.main_c_127) rfl rfl (by decide +kernel)
  rw [eK, eR]
  try rfl
theorem h252 : StableHlo.after (KernelIdeal.Tail.ks1 (F := Ideal)) WK (Proc.devRef .tc KernelIdeal.main_v329) = StableHlo.after (ReferenceIdeal.Hand.tlOps1 (F := Ideal)) WR (Proc.devRef .tc ReferenceIdeal.main_v342) :=
  by
  have eK := final_unary (KernelIdeal.Tail.writes_ks1 (F := Ideal)) WK 257 (rest := (KernelIdeal.Tail.ks1 (F := Ideal)).drop 258) (wrest := KernelIdeal.Tail.wr_ks1.drop 258) (y := KernelIdeal.main_v329) (x := KernelIdeal.main_c_134) rfl rfl (by decide +kernel) (by decide +kernel)
  have eR := final_unary (ReferenceIdeal.Hand.writes_tlOps1 (F := Ideal)) WR 252 (rest := (ReferenceIdeal.Hand.tlOps1 (F := Ideal)).drop 253) (wrest := ReferenceIdeal.Hand.wr_tlOps1.drop 253) (y := ReferenceIdeal.main_v342) (x := ReferenceIdeal.main_c_127) rfl rfl (by decide +kernel) (by decide +kernel)
  rw [eK, eR, h251 WK WR hP hLin hVal]
  try rfl
theorem h253 : StableHlo.after (KernelIdeal.Tail.ks1 (F := Ideal)) WK (Proc.devRef .tc KernelIdeal.main_v330) = StableHlo.after (ReferenceIdeal.Hand.tlOps1 (F := Ideal)) WR (Proc.devRef .tc ReferenceIdeal.main_v343) :=
  by
  have eK := final_binary (KernelIdeal.Tail.writes_ks1 (F := Ideal)) WK 258 (rest := (KernelIdeal.Tail.ks1 (F := Ideal)).drop 259) (wrest := KernelIdeal.Tail.wr_ks1.drop 259) (y := KernelIdeal.main_v330) (a := KernelIdeal.main_v319) (b := KernelIdeal.main_v329) rfl rfl (by decide +kernel) (by decide +kernel) (by decide +kernel)
  have eR := final_binary (ReferenceIdeal.Hand.writes_tlOps1 (F := Ideal)) WR 253 (rest := (ReferenceIdeal.Hand.tlOps1 (F := Ideal)).drop 254) (wrest := ReferenceIdeal.Hand.wr_tlOps1.drop 254) (y := ReferenceIdeal.main_v343) (a := ReferenceIdeal.main_v332) (b := ReferenceIdeal.main_v342) rfl rfl (by decide +kernel) (by decide +kernel) (by decide +kernel)
  rw [eK, eR, h178 WK WR hP hLin hVal, h252 WK WR hP hLin hVal]
  try rfl
theorem h254 : StableHlo.after (KernelIdeal.Tail.ks1 (F := Ideal)) WK (Proc.devRef .tc KernelIdeal.main_c_135) = StableHlo.after (ReferenceIdeal.Hand.tlOps1 (F := Ideal)) WR (Proc.devRef .tc ReferenceIdeal.main_c_128) :=
  by
  have eK := final_nullary (KernelIdeal.Tail.writes_ks1 (F := Ideal)) WK 259 (rest := (KernelIdeal.Tail.ks1 (F := Ideal)).drop 260) (wrest := KernelIdeal.Tail.wr_ks1.drop 260) (y := KernelIdeal.main_c_135) rfl rfl (by decide +kernel)
  have eR := final_nullary (ReferenceIdeal.Hand.writes_tlOps1 (F := Ideal)) WR 254 (rest := (ReferenceIdeal.Hand.tlOps1 (F := Ideal)).drop 255) (wrest := ReferenceIdeal.Hand.wr_tlOps1.drop 255) (y := ReferenceIdeal.main_c_128) rfl rfl (by decide +kernel)
  rw [eK, eR]
  try rfl
theorem h255 : StableHlo.after (KernelIdeal.Tail.ks1 (F := Ideal)) WK (Proc.devRef .tc KernelIdeal.main_call36_v0) = StableHlo.after (ReferenceIdeal.Hand.tlOps1 (F := Ideal)) WR (Proc.devRef .tc ReferenceIdeal.main_call38_v0) :=
  by
  have eK := final_unary (KernelIdeal.Tail.writes_ks1 (F := Ideal)) WK 260 (rest := (KernelIdeal.Tail.ks1 (F := Ideal)).drop 261) (wrest := KernelIdeal.Tail.wr_ks1.drop 261) (y := KernelIdeal.main_call36_v0) (x := KernelIdeal.main_c_135) rfl rfl (by decide +kernel) (by decide +kernel)
  have eR := final_unary (ReferenceIdeal.Hand.writes_tlOps1 (F := Ideal)) WR 255 (rest := (ReferenceIdeal.Hand.tlOps1 (F := Ideal)).drop 256) (wrest := ReferenceIdeal.Hand.wr_tlOps1.drop 256) (y := ReferenceIdeal.main_call38_v0) (x := ReferenceIdeal.main_c_128) rfl rfl (by decide +kernel) (by decide +kernel)
  rw [eK, eR, h254 WK WR hP hLin hVal]
  try rfl
theorem h256 : StableHlo.after (KernelIdeal.Tail.ks1 (F := Ideal)) WK (Proc.devRef .tc KernelIdeal.main_call36_c) = StableHlo.after (ReferenceIdeal.Hand.tlOps1 (F := Ideal)) WR (Proc.devRef .tc ReferenceIdeal.main_call38_c) :=
  by
  have eK := final_nullary (KernelIdeal.Tail.writes_ks1 (F := Ideal)) WK 261 (rest := (KernelIdeal.Tail.ks1 (F := Ideal)).drop 262) (wrest := KernelIdeal.Tail.wr_ks1.drop 262) (y := KernelIdeal.main_call36_c) rfl rfl (by decide +kernel)
  have eR := final_nullary (ReferenceIdeal.Hand.writes_tlOps1 (F := Ideal)) WR 256 (rest := (ReferenceIdeal.Hand.tlOps1 (F := Ideal)).drop 257) (wrest := ReferenceIdeal.Hand.wr_tlOps1.drop 257) (y := ReferenceIdeal.main_call38_c) rfl rfl (by decide +kernel)
  rw [eK, eR]
  try rfl
theorem h257 : StableHlo.after (KernelIdeal.Tail.ks1 (F := Ideal)) WK (Proc.devRef .tc KernelIdeal.main_call36_v1) = StableHlo.after (ReferenceIdeal.Hand.tlOps1 (F := Ideal)) WR (Proc.devRef .tc ReferenceIdeal.main_call38_v1) :=
  by
  have eK := final_binary (KernelIdeal.Tail.writes_ks1 (F := Ideal)) WK 262 (rest := (KernelIdeal.Tail.ks1 (F := Ideal)).drop 263) (wrest := KernelIdeal.Tail.wr_ks1.drop 263) (y := KernelIdeal.main_call36_v1) (a := KernelIdeal.main_call36_v0) (b := KernelIdeal.main_call36_c) rfl rfl (by decide +kernel) (by decide +kernel) (by decide +kernel)
  have eR := final_binary (ReferenceIdeal.Hand.writes_tlOps1 (F := Ideal)) WR 257 (rest := (ReferenceIdeal.Hand.tlOps1 (F := Ideal)).drop 258) (wrest := ReferenceIdeal.Hand.wr_tlOps1.drop 258) (y := ReferenceIdeal.main_call38_v1) (a := ReferenceIdeal.main_call38_v0) (b := ReferenceIdeal.main_call38_c) rfl rfl (by decide +kernel) (by decide +kernel) (by decide +kernel)
  rw [eK, eR, h255 WK WR hP hLin hVal, h256 WK WR hP hLin hVal]
  try rfl
theorem h258 : StableHlo.after (KernelIdeal.Tail.ks1 (F := Ideal)) WK (Proc.devRef .tc KernelIdeal.main_call36_c_0) = StableHlo.after (ReferenceIdeal.Hand.tlOps1 (F := Ideal)) WR (Proc.devRef .tc ReferenceIdeal.main_call38_c_0) :=
  by
  have eK := final_nullary (KernelIdeal.Tail.writes_ks1 (F := Ideal)) WK 263 (rest := (KernelIdeal.Tail.ks1 (F := Ideal)).drop 264) (wrest := KernelIdeal.Tail.wr_ks1.drop 264) (y := KernelIdeal.main_call36_c_0) rfl rfl (by decide +kernel)
  have eR := final_nullary (ReferenceIdeal.Hand.writes_tlOps1 (F := Ideal)) WR 258 (rest := (ReferenceIdeal.Hand.tlOps1 (F := Ideal)).drop 259) (wrest := ReferenceIdeal.Hand.wr_tlOps1.drop 259) (y := ReferenceIdeal.main_call38_c_0) rfl rfl (by decide +kernel)
  rw [eK, eR]
  try rfl
theorem h259 : StableHlo.after (KernelIdeal.Tail.ks1 (F := Ideal)) WK (Proc.devRef .tc KernelIdeal.main_call36_v2) = StableHlo.after (ReferenceIdeal.Hand.tlOps1 (F := Ideal)) WR (Proc.devRef .tc ReferenceIdeal.main_call38_v2) :=
  by
  have eK := final_ternary (KernelIdeal.Tail.writes_ks1 (F := Ideal)) WK 264 (rest := (KernelIdeal.Tail.ks1 (F := Ideal)).drop 265) (wrest := KernelIdeal.Tail.wr_ks1.drop 265) (y := KernelIdeal.main_call36_v2) (c := KernelIdeal.main_call36_v1) (a := KernelIdeal.main_call36_c_0) (b := KernelIdeal.main_call36_v0) rfl rfl (by decide +kernel) (by decide +kernel) (by decide +kernel) (by decide +kernel)
  have eR := final_ternary (ReferenceIdeal.Hand.writes_tlOps1 (F := Ideal)) WR 259 (rest := (ReferenceIdeal.Hand.tlOps1 (F := Ideal)).drop 260) (wrest := ReferenceIdeal.Hand.wr_tlOps1.drop 260) (y := ReferenceIdeal.main_call38_v2) (c := ReferenceIdeal.main_call38_v1) (a := ReferenceIdeal.main_call38_c_0) (b := ReferenceIdeal.main_call38_v0) rfl rfl (by decide +kernel) (by decide +kernel) (by decide +kernel) (by decide +kernel)
  rw [eK, eR, h257 WK WR hP hLin hVal, h258 WK WR hP hLin hVal, h255 WK WR hP hLin hVal]
  try rfl
theorem h260 : StableHlo.after (KernelIdeal.Tail.ks1 (F := Ideal)) WK (Proc.devRef .tc KernelIdeal.main_call36_v3) = StableHlo.after (ReferenceIdeal.Hand.tlOps1 (F := Ideal)) WR (Proc.devRef .tc ReferenceIdeal.main_call38_v3) :=
  by
  have eK := final_unary (KernelIdeal.Tail.writes_ks1 (F := Ideal)) WK 265 (rest := (KernelIdeal.Tail.ks1 (F := Ideal)).drop 266) (wrest := KernelIdeal.Tail.wr_ks1.drop 266) (y := KernelIdeal.main_call36_v3) (x := KernelIdeal.main_call36_call0.v0.ref) rfl rfl (by decide +kernel) (by decide +kernel)
  have eR := final_unary (ReferenceIdeal.Hand.writes_tlOps1 (F := Ideal)) WR 260 (rest := (ReferenceIdeal.Hand.tlOps1 (F := Ideal)).drop 261) (wrest := ReferenceIdeal.Hand.wr_tlOps1.drop 261) (y := ReferenceIdeal.main_call38_v3) (x := ReferenceIdeal.main_call38_v2) rfl rfl (by decide +kernel) (by decide +kernel)
  rw [eK, eR, h259 WK WR hP hLin hVal]
  try rfl
theorem h261 : StableHlo.after (KernelIdeal.Tail.ks1 (F := Ideal)) WK (Proc.devRef .tc KernelIdeal.main_call36_v4) = StableHlo.after (ReferenceIdeal.Hand.tlOps1 (F := Ideal)) WR (Proc.devRef .tc ReferenceIdeal.main_call38_v4) :=
  by
  have eK := final_binary (KernelIdeal.Tail.writes_ks1 (F := Ideal)) WK 266 (rest := (KernelIdeal.Tail.ks1 (F := Ideal)).drop 267) (wrest := KernelIdeal.Tail.wr_ks1.drop 267) (y := KernelIdeal.main_call36_v4) (a := KernelIdeal.main_v319) (b := KernelIdeal.main_call36_v3) rfl rfl (by decide +kernel) (by decide +kernel) (by decide +kernel)
  have eR := final_binary (ReferenceIdeal.Hand.writes_tlOps1 (F := Ideal)) WR 261 (rest := (ReferenceIdeal.Hand.tlOps1 (F := Ideal)).drop 262) (wrest := ReferenceIdeal.Hand.wr_tlOps1.drop 262) (y := ReferenceIdeal.main_call38_v4) (a := ReferenceIdeal.main_v332) (b := ReferenceIdeal.main_call38_v3) rfl rfl (by decide +kernel) (by decide +kernel) (by decide +kernel)
  rw [eK, eR, h178 WK WR hP hLin hVal, h260 WK WR hP hLin hVal]
  try rfl
theorem h262 : StableHlo.after (KernelIdeal.Tail.ks1 (F := Ideal)) WK (Proc.devRef .tc KernelIdeal.main_call36_c_1) = StableHlo.after (ReferenceIdeal.Hand.tlOps1 (F := Ideal)) WR (Proc.devRef .tc ReferenceIdeal.main_call38_c_1) :=
  by
  have eK := final_nullary (KernelIdeal.Tail.writes_ks1 (F := Ideal)) WK 267 (rest := (KernelIdeal.Tail.ks1 (F := Ideal)).drop 268) (wrest := KernelIdeal.Tail.wr_ks1.drop 268) (y := KernelIdeal.main_call36_c_1) rfl rfl (by decide +kernel)
  have eR := final_nullary (ReferenceIdeal.Hand.writes_tlOps1 (F := Ideal)) WR 262 (rest := (ReferenceIdeal.Hand.tlOps1 (F := Ideal)).drop 263) (wrest := ReferenceIdeal.Hand.wr_tlOps1.drop 263) (y := ReferenceIdeal.main_call38_c_1) rfl rfl (by decide +kernel)
  rw [eK, eR]
  try rfl
theorem h263 : StableHlo.after (KernelIdeal.Tail.ks1 (F := Ideal)) WK (Proc.devRef .tc KernelIdeal.main_call36_v5) = StableHlo.after (ReferenceIdeal.Hand.tlOps1 (F := Ideal)) WR (Proc.devRef .tc ReferenceIdeal.main_call38_v5) :=
  by
  have eK := final_unary (KernelIdeal.Tail.writes_ks1 (F := Ideal)) WK 268 (rest := (KernelIdeal.Tail.ks1 (F := Ideal)).drop 269) (wrest := KernelIdeal.Tail.wr_ks1.drop 269) (y := KernelIdeal.main_call36_v5) (x := KernelIdeal.main_call36_c_1) rfl rfl (by decide +kernel) (by decide +kernel)
  have eR := final_unary (ReferenceIdeal.Hand.writes_tlOps1 (F := Ideal)) WR 263 (rest := (ReferenceIdeal.Hand.tlOps1 (F := Ideal)).drop 264) (wrest := ReferenceIdeal.Hand.wr_tlOps1.drop 264) (y := ReferenceIdeal.main_call38_v5) (x := ReferenceIdeal.main_call38_c_1) rfl rfl (by decide +kernel) (by decide +kernel)
  rw [eK, eR, h262 WK WR hP hLin hVal]
  try rfl
theorem h264 : StableHlo.after (KernelIdeal.Tail.ks1 (F := Ideal)) WK (Proc.devRef .tc KernelIdeal.main_call36_v6) = StableHlo.after (ReferenceIdeal.Hand.tlOps1 (F := Ideal)) WR (Proc.devRef .tc ReferenceIdeal.main_call38_v6) :=
  by
  have eK := final_binary (KernelIdeal.Tail.writes_ks1 (F := Ideal)) WK 269 (rest := (KernelIdeal.Tail.ks1 (F := Ideal)).drop 270) (wrest := KernelIdeal.Tail.wr_ks1.drop 270) (y := KernelIdeal.main_call36_v6) (a := KernelIdeal.main_call36_v4) (b := KernelIdeal.main_call36_v5) rfl rfl (by decide +kernel) (by decide +kernel) (by decide +kernel)
  have eR := final_binary (ReferenceIdeal.Hand.writes_tlOps1 (F := Ideal)) WR 264 (rest := (ReferenceIdeal.Hand.tlOps1 (F := Ideal)).drop 265) (wrest := ReferenceIdeal.Hand.wr_tlOps1.drop 265) (y := ReferenceIdeal.main_call38_v6) (a := ReferenceIdeal.main_call38_v4) (b := ReferenceIdeal.main_call38_v5) rfl rfl (by decide +kernel) (by decide +kernel) (by decide +kernel)
  rw [eK, eR, h261 WK WR hP hLin hVal, h263 WK WR hP hLin hVal]
  try rfl
theorem h265 : StableHlo.after (KernelIdeal.Tail.ks1 (F := Ideal)) WK (Proc.devRef .tc KernelIdeal.main_call36_c_2) = StableHlo.after (ReferenceIdeal.Hand.tlOps1 (F := Ideal)) WR (Proc.devRef .tc ReferenceIdeal.main_call38_c_2) :=
  by
  have eK := final_nullary (KernelIdeal.Tail.writes_ks1 (F := Ideal)) WK 270 (rest := (KernelIdeal.Tail.ks1 (F := Ideal)).drop 271) (wrest := KernelIdeal.Tail.wr_ks1.drop 271) (y := KernelIdeal.main_call36_c_2) rfl rfl (by decide +kernel)
  have eR := final_nullary (ReferenceIdeal.Hand.writes_tlOps1 (F := Ideal)) WR 265 (rest := (ReferenceIdeal.Hand.tlOps1 (F := Ideal)).drop 266) (wrest := ReferenceIdeal.Hand.wr_tlOps1.drop 266) (y := ReferenceIdeal.main_call38_c_2) rfl rfl (by decide +kernel)
  rw [eK, eR]
  try rfl
theorem h266 : StableHlo.after (KernelIdeal.Tail.ks1 (F := Ideal)) WK (Proc.devRef .tc KernelIdeal.main_call36_v7) = StableHlo.after (ReferenceIdeal.Hand.tlOps1 (F := Ideal)) WR (Proc.devRef .tc ReferenceIdeal.main_call38_v7) :=
  by
  have eK := final_unary (KernelIdeal.Tail.writes_ks1 (F := Ideal)) WK 271 (rest := (KernelIdeal.Tail.ks1 (F := Ideal)).drop 272) (wrest := KernelIdeal.Tail.wr_ks1.drop 272) (y := KernelIdeal.main_call36_v7) (x := KernelIdeal.main_call36_c_2) rfl rfl (by decide +kernel) (by decide +kernel)
  have eR := final_unary (ReferenceIdeal.Hand.writes_tlOps1 (F := Ideal)) WR 266 (rest := (ReferenceIdeal.Hand.tlOps1 (F := Ideal)).drop 267) (wrest := ReferenceIdeal.Hand.wr_tlOps1.drop 267) (y := ReferenceIdeal.main_call38_v7) (x := ReferenceIdeal.main_call38_c_2) rfl rfl (by decide +kernel) (by decide +kernel)
  rw [eK, eR, h265 WK WR hP hLin hVal]
  try rfl
theorem h267 : StableHlo.after (KernelIdeal.Tail.ks1 (F := Ideal)) WK (Proc.devRef .tc KernelIdeal.main_call36_v8) = StableHlo.after (ReferenceIdeal.Hand.tlOps1 (F := Ideal)) WR (Proc.devRef .tc ReferenceIdeal.main_call38_v8) :=
  by
  have eK := final_binary (KernelIdeal.Tail.writes_ks1 (F := Ideal)) WK 272 (rest := (KernelIdeal.Tail.ks1 (F := Ideal)).drop 273) (wrest := KernelIdeal.Tail.wr_ks1.drop 273) (y := KernelIdeal.main_call36_v8) (a := KernelIdeal.main_call36_v4) (b := KernelIdeal.main_call36_v7) rfl rfl (by decide +kernel) (by decide +kernel) (by decide +kernel)
  have eR := final_binary (ReferenceIdeal.Hand.writes_tlOps1 (F := Ideal)) WR 267 (rest := (ReferenceIdeal.Hand.tlOps1 (F := Ideal)).drop 268) (wrest := ReferenceIdeal.Hand.wr_tlOps1.drop 268) (y := ReferenceIdeal.main_call38_v8) (a := ReferenceIdeal.main_call38_v4) (b := ReferenceIdeal.main_call38_v7) rfl rfl (by decide +kernel) (by decide +kernel) (by decide +kernel)
  rw [eK, eR, h261 WK WR hP hLin hVal, h266 WK WR hP hLin hVal]
  try rfl
theorem h268 : StableHlo.after (KernelIdeal.Tail.ks1 (F := Ideal)) WK (Proc.devRef .tc KernelIdeal.main_call36_c_3) = StableHlo.after (ReferenceIdeal.Hand.tlOps1 (F := Ideal)) WR (Proc.devRef .tc ReferenceIdeal.main_call38_c_3) :=
  by
  have eK := final_nullary (KernelIdeal.Tail.writes_ks1 (F := Ideal)) WK 273 (rest := (KernelIdeal.Tail.ks1 (F := Ideal)).drop 274) (wrest := KernelIdeal.Tail.wr_ks1.drop 274) (y := KernelIdeal.main_call36_c_3) rfl rfl (by decide +kernel)
  have eR := final_nullary (ReferenceIdeal.Hand.writes_tlOps1 (F := Ideal)) WR 268 (rest := (ReferenceIdeal.Hand.tlOps1 (F := Ideal)).drop 269) (wrest := ReferenceIdeal.Hand.wr_tlOps1.drop 269) (y := ReferenceIdeal.main_call38_c_3) rfl rfl (by decide +kernel)
  rw [eK, eR]
  try rfl
theorem h269 : StableHlo.after (KernelIdeal.Tail.ks1 (F := Ideal)) WK (Proc.devRef .tc KernelIdeal.main_call36_v9) = StableHlo.after (ReferenceIdeal.Hand.tlOps1 (F := Ideal)) WR (Proc.devRef .tc ReferenceIdeal.main_call38_v9) :=
  by
  have eK := final_binary (KernelIdeal.Tail.writes_ks1 (F := Ideal)) WK 274 (rest := (KernelIdeal.Tail.ks1 (F := Ideal)).drop 275) (wrest := KernelIdeal.Tail.wr_ks1.drop 275) (y := KernelIdeal.main_call36_v9) (a := KernelIdeal.main_call36_call0.v0.ref) (b := KernelIdeal.main_call36_c_3) rfl rfl (by decide +kernel) (by decide +kernel) (by decide +kernel)
  have eR := final_binary (ReferenceIdeal.Hand.writes_tlOps1 (F := Ideal)) WR 269 (rest := (ReferenceIdeal.Hand.tlOps1 (F := Ideal)).drop 270) (wrest := ReferenceIdeal.Hand.wr_tlOps1.drop 270) (y := ReferenceIdeal.main_call38_v9) (a := ReferenceIdeal.main_call38_v2) (b := ReferenceIdeal.main_call38_c_3) rfl rfl (by decide +kernel) (by decide +kernel) (by decide +kernel)
  rw [eK, eR, h259 WK WR hP hLin hVal, h268 WK WR hP hLin hVal]
  try rfl
theorem h270 : StableHlo.after (KernelIdeal.Tail.ks1 (F := Ideal)) WK (Proc.devRef .tc KernelIdeal.main_call36_v10) = StableHlo.after (ReferenceIdeal.Hand.tlOps1 (F := Ideal)) WR (Proc.devRef .tc ReferenceIdeal.main_call38_v10) :=
  by
  have eK := final_unary (KernelIdeal.Tail.writes_ks1 (F := Ideal)) WK 275 (rest := (KernelIdeal.Tail.ks1 (F := Ideal)).drop 276) (wrest := KernelIdeal.Tail.wr_ks1.drop 276) (y := KernelIdeal.main_call36_v10) (x := KernelIdeal.main_call36_v9) rfl rfl (by decide +kernel) (by decide +kernel)
  have eR := final_unary (ReferenceIdeal.Hand.writes_tlOps1 (F := Ideal)) WR 270 (rest := (ReferenceIdeal.Hand.tlOps1 (F := Ideal)).drop 271) (wrest := ReferenceIdeal.Hand.wr_tlOps1.drop 271) (y := ReferenceIdeal.main_call38_v10) (x := ReferenceIdeal.main_call38_v9) rfl rfl (by decide +kernel) (by decide +kernel)
  rw [eK, eR, h269 WK WR hP hLin hVal]
  try rfl
theorem h271 : StableHlo.after (KernelIdeal.Tail.ks1 (F := Ideal)) WK (Proc.devRef .tc KernelIdeal.main_call36_v11) = StableHlo.after (ReferenceIdeal.Hand.tlOps1 (F := Ideal)) WR (Proc.devRef .tc ReferenceIdeal.main_call38_v11) :=
  by
  have eK := final_binary (KernelIdeal.Tail.writes_ks1 (F := Ideal)) WK 276 (rest := (KernelIdeal.Tail.ks1 (F := Ideal)).drop 277) (wrest := KernelIdeal.Tail.wr_ks1.drop 277) (y := KernelIdeal.main_call36_v11) (a := KernelIdeal.main_call36_v8) (b := KernelIdeal.main_call36_v10) rfl rfl (by decide +kernel) (by decide +kernel) (by decide +kernel)
  have eR := final_binary (ReferenceIdeal.Hand.writes_tlOps1 (F := Ideal)) WR 271 (rest := (ReferenceIdeal.Hand.tlOps1 (F := Ideal)).drop 272) (wrest := ReferenceIdeal.Hand.wr_tlOps1.drop 272) (y := ReferenceIdeal.main_call38_v11) (a := ReferenceIdeal.main_call38_v8) (b := ReferenceIdeal.main_call38_v10) rfl rfl (by decide +kernel) (by decide +kernel) (by decide +kernel)
  rw [eK, eR, h267 WK WR hP hLin hVal, h270 WK WR hP hLin hVal]
  try rfl
theorem h272 : StableHlo.after (KernelIdeal.Tail.ks1 (F := Ideal)) WK (Proc.devRef .tc KernelIdeal.main_call36_v12) = StableHlo.after (ReferenceIdeal.Hand.tlOps1 (F := Ideal)) WR (Proc.devRef .tc ReferenceIdeal.main_call38_v12) :=
  by
  have eK := final_binary (KernelIdeal.Tail.writes_ks1 (F := Ideal)) WK 277 (rest := (KernelIdeal.Tail.ks1 (F := Ideal)).drop 278) (wrest := KernelIdeal.Tail.wr_ks1.drop 278) (y := KernelIdeal.main_call36_v12) (a := KernelIdeal.main_call36_v11) (b := KernelIdeal.main_call36_v6) rfl rfl (by decide +kernel) (by decide +kernel) (by decide +kernel)
  have eR := final_binary (ReferenceIdeal.Hand.writes_tlOps1 (F := Ideal)) WR 272 (rest := (ReferenceIdeal.Hand.tlOps1 (F := Ideal)).drop 273) (wrest := ReferenceIdeal.Hand.wr_tlOps1.drop 273) (y := ReferenceIdeal.main_call38_v12) (a := ReferenceIdeal.main_call38_v11) (b := ReferenceIdeal.main_call38_v6) rfl rfl (by decide +kernel) (by decide +kernel) (by decide +kernel)
  rw [eK, eR, h271 WK WR hP hLin hVal, h264 WK WR hP hLin hVal]
  try rfl
theorem h273 : StableHlo.after (KernelIdeal.Tail.ks1 (F := Ideal)) WK (Proc.devRef .tc KernelIdeal.main_call36_v13) = StableHlo.after (ReferenceIdeal.Hand.tlOps1 (F := Ideal)) WR (Proc.devRef .tc ReferenceIdeal.main_call38_v13) :=
  by
  have eK := final_unary (KernelIdeal.Tail.writes_ks1 (F := Ideal)) WK 278 (rest := (KernelIdeal.Tail.ks1 (F := Ideal)).drop 279) (wrest := KernelIdeal.Tail.wr_ks1.drop 279) (y := KernelIdeal.main_call36_v13) (x := KernelIdeal.main_call36_call0.v0.ref) rfl rfl (by decide +kernel) (by decide +kernel)
  have eR := final_unary (ReferenceIdeal.Hand.writes_tlOps1 (F := Ideal)) WR 273 (rest := (ReferenceIdeal.Hand.tlOps1 (F := Ideal)).drop 274) (wrest := ReferenceIdeal.Hand.wr_tlOps1.drop 274) (y := ReferenceIdeal.main_call38_v13) (x := ReferenceIdeal.main_call38_v2) rfl rfl (by decide +kernel) (by decide +kernel)
  rw [eK, eR, h259 WK WR hP hLin hVal]
  try rfl
theorem h274 : StableHlo.after (KernelIdeal.Tail.ks1 (F := Ideal)) WK (Proc.devRef .tc KernelIdeal.main_call36_v14) = StableHlo.after (ReferenceIdeal.Hand.tlOps1 (F := Ideal)) WR (Proc.devRef .tc ReferenceIdeal.main_call38_v14) :=
  by
  have eK := final_binary (KernelIdeal.Tail.writes_ks1 (F := Ideal)) WK 279 (rest := (KernelIdeal.Tail.ks1 (F := Ideal)).drop 280) (wrest := KernelIdeal.Tail.wr_ks1.drop 280) (y := KernelIdeal.main_call36_v14) (a := KernelIdeal.main_call36_v4) (b := KernelIdeal.main_call36_v13) rfl rfl (by decide +kernel) (by decide +kernel) (by decide +kernel)
  have eR := final_binary (ReferenceIdeal.Hand.writes_tlOps1 (F := Ideal)) WR 274 (rest := (ReferenceIdeal.Hand.tlOps1 (F := Ideal)).drop 275) (wrest := ReferenceIdeal.Hand.wr_tlOps1.drop 275) (y := ReferenceIdeal.main_call38_v14) (a := ReferenceIdeal.main_call38_v4) (b := ReferenceIdeal.main_call38_v13) rfl rfl (by decide +kernel) (by decide +kernel) (by decide +kernel)
  rw [eK, eR, h261 WK WR hP hLin hVal, h273 WK WR hP hLin hVal]
  try rfl
theorem h275 : StableHlo.after (KernelIdeal.Tail.ks1 (F := Ideal)) WK (Proc.devRef .tc KernelIdeal.main_v331) = StableHlo.after (ReferenceIdeal.Hand.tlOps1 (F := Ideal)) WR (Proc.devRef .tc ReferenceIdeal.main_v344) :=
  by
  have eK := final_ternary (KernelIdeal.Tail.writes_ks1 (F := Ideal)) WK 280 (rest := (KernelIdeal.Tail.ks1 (F := Ideal)).drop 281) (wrest := KernelIdeal.Tail.wr_ks1.drop 281) (y := KernelIdeal.main_v331) (c := KernelIdeal.main_call36_v12) (a := KernelIdeal.main_call36_v14) (b := KernelIdeal.main_call36_v4) rfl rfl (by decide +kernel) (by decide +kernel) (by decide +kernel) (by decide +kernel)
  have eR := final_ternary (ReferenceIdeal.Hand.writes_tlOps1 (F := Ideal)) WR 275 (rest := (ReferenceIdeal.Hand.tlOps1 (F := Ideal)).drop 276) (wrest := ReferenceIdeal.Hand.wr_tlOps1.drop 276) (y := ReferenceIdeal.main_v344) (c := ReferenceIdeal.main_call38_v12) (a := ReferenceIdeal.main_call38_v14) (b := ReferenceIdeal.main_call38_v4) rfl rfl (by decide +kernel) (by decide +kernel) (by decide +kernel) (by decide +kernel)
  rw [eK, eR, h272 WK WR hP hLin hVal, h274 WK WR hP hLin hVal, h261 WK WR hP hLin hVal]
  try rfl
theorem h276 : StableHlo.after (KernelIdeal.Tail.ks1 (F := Ideal)) WK (Proc.devRef .tc KernelIdeal.main_c_136) = StableHlo.after (ReferenceIdeal.Hand.tlOps1 (F := Ideal)) WR (Proc.devRef .tc ReferenceIdeal.main_c_129) :=
  by
  have eK := final_nullary (KernelIdeal.Tail.writes_ks1 (F := Ideal)) WK 281 (rest := (KernelIdeal.Tail.ks1 (F := Ideal)).drop 282) (wrest := KernelIdeal.Tail.wr_ks1.drop 282) (y := KernelIdeal.main_c_136) rfl rfl (by decide +kernel)
  have eR := final_nullary (ReferenceIdeal.Hand.writes_tlOps1 (F := Ideal)) WR 276 (rest := (ReferenceIdeal.Hand.tlOps1 (F := Ideal)).drop 277) (wrest := ReferenceIdeal.Hand.wr_tlOps1.drop 277) (y := ReferenceIdeal.main_c_129) rfl rfl (by decide +kernel)
  rw [eK, eR]
  try rfl
theorem h277 : StableHlo.after (KernelIdeal.Tail.ks1 (F := Ideal)) WK (Proc.devRef .tc KernelIdeal.main_call37_v0) = StableHlo.after (ReferenceIdeal.Hand.tlOps1 (F := Ideal)) WR (Proc.devRef .tc ReferenceIdeal.main_call39_v0) :=
  by
  have eK := final_unary (KernelIdeal.Tail.writes_ks1 (F := Ideal)) WK 282 (rest := (KernelIdeal.Tail.ks1 (F := Ideal)).drop 283) (wrest := KernelIdeal.Tail.wr_ks1.drop 283) (y := KernelIdeal.main_call37_v0) (x := KernelIdeal.main_c_136) rfl rfl (by decide +kernel) (by decide +kernel)
  have eR := final_unary (ReferenceIdeal.Hand.writes_tlOps1 (F := Ideal)) WR 277 (rest := (ReferenceIdeal.Hand.tlOps1 (F := Ideal)).drop 278) (wrest := ReferenceIdeal.Hand.wr_tlOps1.drop 278) (y := ReferenceIdeal.main_call39_v0) (x := ReferenceIdeal.main_c_129) rfl rfl (by decide +kernel) (by decide +kernel)
  rw [eK, eR, h276 WK WR hP hLin hVal]
  try rfl
theorem h278 : StableHlo.after (KernelIdeal.Tail.ks1 (F := Ideal)) WK (Proc.devRef .tc KernelIdeal.main_call37_v1) = StableHlo.after (ReferenceIdeal.Hand.tlOps1 (F := Ideal)) WR (Proc.devRef .tc ReferenceIdeal.main_call39_v1) :=
  by
  have eK := final_unary (KernelIdeal.Tail.writes_ks1 (F := Ideal)) WK 283 (rest := (KernelIdeal.Tail.ks1 (F := Ideal)).drop 284) (wrest := KernelIdeal.Tail.wr_ks1.drop 284) (y := KernelIdeal.main_call37_v1) (x := KernelIdeal.main_call37_v0) rfl rfl (by decide +kernel) (by decide +kernel)
  have eR := final_unary (ReferenceIdeal.Hand.writes_tlOps1 (F := Ideal)) WR 278 (rest := (ReferenceIdeal.Hand.tlOps1 (F := Ideal)).drop 279) (wrest := ReferenceIdeal.Hand.wr_tlOps1.drop 279) (y := ReferenceIdeal.main_call39_v1) (x := ReferenceIdeal.main_call39_v0) rfl rfl (by decide +kernel) (by decide +kernel)
  rw [eK, eR, h277 WK WR hP hLin hVal]
  try rfl
theorem h279 : StableHlo.after (KernelIdeal.Tail.ks1 (F := Ideal)) WK (Proc.devRef .tc KernelIdeal.main_v332) = StableHlo.after (ReferenceIdeal.Hand.tlOps1 (F := Ideal)) WR (Proc.devRef .tc ReferenceIdeal.main_v345) :=
  by
  have eK := final_ternary (KernelIdeal.Tail.writes_ks1 (F := Ideal)) WK 284 (rest := (KernelIdeal.Tail.ks1 (F := Ideal)).drop 285) (wrest := KernelIdeal.Tail.wr_ks1.drop 285) (y := KernelIdeal.main_v332) (c := KernelIdeal.main_v330) (a := KernelIdeal.main_v331) (b := KernelIdeal.main_call37_v1) rfl rfl (by decide +kernel) (by decide +kernel) (by decide +kernel) (by decide +kernel)
  have eR := final_ternary (ReferenceIdeal.Hand.writes_tlOps1 (F := Ideal)) WR 279 (rest := (ReferenceIdeal.Hand.tlOps1 (F := Ideal)).drop 280) (wrest := ReferenceIdeal.Hand.wr_tlOps1.drop 280) (y := ReferenceIdeal.main_v345) (c := ReferenceIdeal.main_v343) (a := ReferenceIdeal.main_v344) (b := ReferenceIdeal.main_call39_v1) rfl rfl (by decide +kernel) (by decide +kernel) (by decide +kernel) (by decide +kernel)
  rw [eK, eR, h253 WK WR hP hLin hVal, h275 WK WR hP hLin hVal, h278 WK WR hP hLin hVal]
  try rfl
theorem h280 : StableHlo.after (KernelIdeal.Tail.ks1 (F := Ideal)) WK (Proc.devRef .tc KernelIdeal.main_v333) = StableHlo.after (ReferenceIdeal.Hand.tlOps1 (F := Ideal)) WR (Proc.devRef .tc ReferenceIdeal.main_v346) :=
  by
  have eK := final_unary (KernelIdeal.Tail.writes_ks1 (F := Ideal)) WK 285 (rest := (KernelIdeal.Tail.ks1 (F := Ideal)).drop 286) (wrest := KernelIdeal.Tail.wr_ks1.drop 286) (y := KernelIdeal.main_v333) (x := KernelIdeal.main_v323) rfl rfl (by decide +kernel) (by decide +kernel)
  have eR := final_unary (ReferenceIdeal.Hand.writes_tlOps1 (F := Ideal)) WR 280 (rest := (ReferenceIdeal.Hand.tlOps1 (F := Ideal)).drop 281) (wrest := ReferenceIdeal.Hand.wr_tlOps1.drop 281) (y := ReferenceIdeal.main_v346) (x := ReferenceIdeal.main_v336) rfl rfl (by decide +kernel) (by decide +kernel)
  rw [eK, eR, h203 WK WR hP hLin hVal]
  try rfl
theorem h281 : StableHlo.after (KernelIdeal.Tail.ks1 (F := Ideal)) WK (Proc.devRef .tc KernelIdeal.main_v334) = StableHlo.after (ReferenceIdeal.Hand.tlOps1 (F := Ideal)) WR (Proc.devRef .tc ReferenceIdeal.main_v347) :=
  by
  have eK := final_unary (KernelIdeal.Tail.writes_ks1 (F := Ideal)) WK 286 (rest := (KernelIdeal.Tail.ks1 (F := Ideal)).drop 287) (wrest := KernelIdeal.Tail.wr_ks1.drop 287) (y := KernelIdeal.main_v334) (x := KernelIdeal.main_v328) rfl rfl (by decide +kernel) (by decide +kernel)
  have eR := final_unary (ReferenceIdeal.Hand.writes_tlOps1 (F := Ideal)) WR 281 (rest := (ReferenceIdeal.Hand.tlOps1 (F := Ideal)).drop 282) (wrest := ReferenceIdeal.Hand.wr_tlOps1.drop 282) (y := ReferenceIdeal.main_v347) (x := ReferenceIdeal.main_v341) rfl rfl (by decide +kernel) (by decide +kernel)
  rw [eK, eR, h250 WK WR hP hLin hVal]
  try rfl
theorem h282 : StableHlo.after (KernelIdeal.Tail.ks1 (F := Ideal)) WK (Proc.devRef .tc KernelIdeal.main_v335) = StableHlo.after (ReferenceIdeal.Hand.tlOps1 (F := Ideal)) WR (Proc.devRef .tc ReferenceIdeal.main_v348) :=
  by
  have eK := final_unary (KernelIdeal.Tail.writes_ks1 (F := Ideal)) WK 287 (rest := (KernelIdeal.Tail.ks1 (F := Ideal)).drop 288) (wrest := KernelIdeal.Tail.wr_ks1.drop 288) (y := KernelIdeal.main_v335) (x := KernelIdeal.main_v332) rfl rfl (by decide +kernel) (by decide +kernel)
  have eR := final_unary (ReferenceIdeal.Hand.writes_tlOps1 (F := Ideal)) WR 282 (rest := (ReferenceIdeal.Hand.tlOps1 (F := Ideal)).drop 283) (wrest := ReferenceIdeal.Hand.wr_tlOps1.drop 283) (y := ReferenceIdeal.main_v348) (x := ReferenceIdeal.main_v345) rfl rfl (by decide +kernel) (by decide +kernel)
  rw [eK, eR, h279 WK WR hP hLin hVal]
  try rfl
theorem h283 : StableHlo.after (KernelIdeal.Tail.ks1 (F := Ideal)) WK (Proc.devRef .tc KernelIdeal.main_v336) = StableHlo.after (ReferenceIdeal.Hand.tlOps1 (F := Ideal)) WR (Proc.devRef .tc ReferenceIdeal.main_v349) := by
  refine (final_at (KernelIdeal.Tail.writes_ks1 (F := Ideal)) WK 288 (op := _) (rest := (KernelIdeal.Tail.ks1 (F := Ideal)).drop 289) (wrest := KernelIdeal.Tail.wr_ks1.drop 289) (y := KernelIdeal.main_v336) rfl rfl (by decide +kernel)).trans ?_
  refine Eq.symm ?_
  refine (final_at (ReferenceIdeal.Hand.writes_tlOps1 (F := Ideal)) WR 283 (op := _) (rest := (ReferenceIdeal.Hand.tlOps1 (F := Ideal)).drop 284) (wrest := ReferenceIdeal.Hand.wr_tlOps1.drop 284) (y := ReferenceIdeal.main_v349) rfl rfl (by decide +kernel)).trans ?_
  refine Eq.symm ?_
  refine (nary3_result _ _ _ _).trans ?_
  refine Eq.symm ?_
  refine (nary3_result _ _ _ _).trans ?_
  rw [stable (ReferenceIdeal.Hand.writes_tlOps1 (F := Ideal)) WR 283 ReferenceIdeal.main_v346 (by decide +kernel), stable (ReferenceIdeal.Hand.writes_tlOps1 (F := Ideal)) WR 283 ReferenceIdeal.main_v347 (by decide +kernel), stable (ReferenceIdeal.Hand.writes_tlOps1 (F := Ideal)) WR 283 ReferenceIdeal.main_v348 (by decide +kernel), stable (KernelIdeal.Tail.writes_ks1 (F := Ideal)) WK 288 KernelIdeal.main_v333 (by decide +kernel), stable (KernelIdeal.Tail.writes_ks1 (F := Ideal)) WK 288 KernelIdeal.main_v334 (by decide +kernel), stable (KernelIdeal.Tail.writes_ks1 (F := Ideal)) WK 288 KernelIdeal.main_v335 (by decide +kernel), h280 WK WR hP hLin hVal, h281 WK WR hP hLin hVal, h282 WK WR hP hLin hVal]
  rfl
theorem h284 : StableHlo.after (KernelIdeal.Tail.ks1 (F := Ideal)) WK (Proc.devRef .tc KernelIdeal.main_c_137) = StableHlo.after (ReferenceIdeal.Hand.tlOps1 (F := Ideal)) WR (Proc.devRef .tc ReferenceIdeal.main_c_130) :=
  by
  have eK := final_nullary (KernelIdeal.Tail.writes_ks1 (F := Ideal)) WK 289 (rest := (KernelIdeal.Tail.ks1 (F := Ideal)).drop 290) (wrest := KernelIdeal.Tail.wr_ks1.drop 290) (y := KernelIdeal.main_c_137) rfl rfl (by decide +kernel)
  have eR := final_nullary (ReferenceIdeal.Hand.writes_tlOps1 (F := Ideal)) WR 284 (rest := (ReferenceIdeal.Hand.tlOps1 (F := Ideal)).drop 285) (wrest := ReferenceIdeal.Hand.wr_tlOps1.drop 285) (y := ReferenceIdeal.main_c_130) rfl rfl (by decide +kernel)
  rw [eK, eR]
  try rfl
theorem h285 : StableHlo.after (KernelIdeal.Tail.ks1 (F := Ideal)) WK (Proc.devRef .tc KernelIdeal.main_v337) = StableHlo.after (ReferenceIdeal.Hand.tlOps1 (F := Ideal)) WR (Proc.devRef .tc ReferenceIdeal.main_v350) :=
  by
  have eK := final_unary (KernelIdeal.Tail.writes_ks1 (F := Ideal)) WK 290 (rest := (KernelIdeal.Tail.ks1 (F := Ideal)).drop 291) (wrest := KernelIdeal.Tail.wr_ks1.drop 291) (y := KernelIdeal.main_v337) (x := KernelIdeal.main_c_137) rfl rfl (by decide +kernel) (by decide +kernel)
  have eR := final_unary (ReferenceIdeal.Hand.writes_tlOps1 (F := Ideal)) WR 285 (rest := (ReferenceIdeal.Hand.tlOps1 (F := Ideal)).drop 286) (wrest := ReferenceIdeal.Hand.wr_tlOps1.drop 286) (y := ReferenceIdeal.main_v350) (x := ReferenceIdeal.main_c_130) rfl rfl (by decide +kernel) (by decide +kernel)
  rw [eK, eR, h284 WK WR hP hLin hVal]
  try rfl
theorem h286 : StableHlo.after (KernelIdeal.Tail.ks1 (F := Ideal)) WK (Proc.devRef .tc KernelIdeal.main_v338) = StableHlo.after (ReferenceIdeal.Hand.tlOps1 (F := Ideal)) WR (Proc.devRef .tc ReferenceIdeal.main_v351) :=
  by
  have eK := final_binary (KernelIdeal.Tail.writes_ks1 (F := Ideal)) WK 291 (rest := (KernelIdeal.Tail.ks1 (F := Ideal)).drop 292) (wrest := KernelIdeal.Tail.wr_ks1.drop 292) (y := KernelIdeal.main_v338) (a := KernelIdeal.main_v337) (b := KernelIdeal.main_v336) rfl rfl (by decide +kernel) (by decide +kernel) (by decide +kernel)
  have eR := final_binary (ReferenceIdeal.Hand.writes_tlOps1 (F := Ideal)) WR 286 (rest := (ReferenceIdeal.Hand.tlOps1 (F := Ideal)).drop 287) (wrest := ReferenceIdeal.Hand.wr_tlOps1.drop 287) (y := ReferenceIdeal.main_v351) (a := ReferenceIdeal.main_v350) (b := ReferenceIdeal.main_v349) rfl rfl (by decide +kernel) (by decide +kernel) (by decide +kernel)
  rw [eK, eR, h285 WK WR hP hLin hVal, h283 WK WR hP hLin hVal]
  try rfl

end Walk

end Cert.Bridge.Fast1

namespace Cert.Bridge
open Idealize.ShloMosaic Idealize.ShloMosaic.TcCoe Idealize.SL.Sem Idealize.ShloMosaic.StableHlo Cert.Lock

/-- Batch 1, by the walk in step: the three inputs agree at the end of the two lists (the points and the reference's
    cell ids and mask are inputs, never written; the kernel program's cell ids and mask are its five leading operations),
    and the three outputs are lines 144, 150, 286 of the walk. -/
theorem batch1' (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v27) = WR (Proc.devRef .tc Cert.ReferenceIdeal.main_v189))
    (hl : (fun i => shapeCast (Cert.KernelIdeal.main_v203 : Ref Cert.KernelIdeal.sig .tc).ty.shape
            (extractStridedSlice Cert.KernelIdeal.S1x300000 ![1, 0] (WK (Proc.devRef .tc Cert.KernelIdeal.main_v64)) Cert.KernelIdeal.Facts₀.slices_S4x300000_S1x300000_1_0)
            Cert.KernelIdeal.Facts₀.shapeCasts_S1x300000_S300000 i) = WR (Proc.devRef .tc Cert.ReferenceIdeal.main_v218))
    (hv : cmpi .ne (WR (Proc.devRef .tc Cert.ReferenceIdeal.main_v218)) (broadcastInDim Cert.KernelIdeal.S300000 ![] Cert.KernelIdeal.Facts₀.bcast_S_S300000 (constantI Cert.KernelIdeal.S_ 32 262144#32))
            = WR (Proc.devRef .tc Cert.ReferenceIdeal.main_v205)) :
    StableHlo.after (Cert.KernelIdeal.Tail.ks1 (F := Ideal)) WK (Proc.devRef .tc Cert.KernelIdeal.main_v297)
        = StableHlo.after (Cert.ReferenceIdeal.Hand.tlOps1 (F := Ideal)) WR (Proc.devRef .tc Cert.ReferenceIdeal.main_v310)
    ∧ StableHlo.after (Cert.KernelIdeal.Tail.ks1 (F := Ideal)) WK (Proc.devRef .tc Cert.KernelIdeal.main_v302)
        = StableHlo.after (Cert.ReferenceIdeal.Hand.tlOps1 (F := Ideal)) WR (Proc.devRef .tc Cert.ReferenceIdeal.main_v315)
    ∧ StableHlo.after (Cert.KernelIdeal.Tail.ks1 (F := Ideal)) WK (Proc.devRef .tc Cert.KernelIdeal.main_v338)
        = StableHlo.after (Cert.ReferenceIdeal.Hand.tlOps1 (F := Ideal)) WR (Proc.devRef .tc Cert.ReferenceIdeal.main_v351) := by
  have kP : StableHlo.after (KernelIdeal.Tail.ks1 (F := Ideal)) WK (Proc.devRef .tc KernelIdeal.main_v27) = WK (Proc.devRef .tc KernelIdeal.main_v27) := keep_key (KernelIdeal.Tail.writes_ks1 (F := Ideal)) WK _ (by decide +kernel)
  have k64 : StableHlo.after (KernelIdeal.Tail.ks1 (F := Ideal)) WK (Proc.devRef .tc KernelIdeal.main_v64) = WK (Proc.devRef .tc KernelIdeal.main_v64) := keep_key (KernelIdeal.Tail.writes_ks1 (F := Ideal)) WK _ (by decide +kernel)
  have rP : StableHlo.after (ReferenceIdeal.Hand.tlOps1 (F := Ideal)) WR (Proc.devRef .tc ReferenceIdeal.main_v189) = WR (Proc.devRef .tc ReferenceIdeal.main_v189) := keep_key (ReferenceIdeal.Hand.writes_tlOps1 (F := Ideal)) WR _ (by decide +kernel)
  have rL : StableHlo.after (ReferenceIdeal.Hand.tlOps1 (F := Ideal)) WR (Proc.devRef .tc ReferenceIdeal.main_v218) = WR (Proc.devRef .tc ReferenceIdeal.main_v218) := keep_key (ReferenceIdeal.Hand.writes_tlOps1 (F := Ideal)) WR _ (by decide +kernel)
  have rV : StableHlo.after (ReferenceIdeal.Hand.tlOps1 (F := Ideal)) WR (Proc.devRef .tc ReferenceIdeal.main_v205) = WR (Proc.devRef .tc ReferenceIdeal.main_v205) := keep_key (ReferenceIdeal.Hand.writes_tlOps1 (F := Ideal)) WR _ (by decide +kernel)
  have e65 := final_unary (KernelIdeal.Tail.writes_ks1 (F := Ideal)) WK 0 (rest := (KernelIdeal.Tail.ks1 (F := Ideal)).drop 1) (wrest := KernelIdeal.Tail.wr_ks1.drop 1) (y := KernelIdeal.main_v202) (x := KernelIdeal.main_v64) rfl rfl (by decide +kernel) (by decide +kernel)
  have e66 := final_reshape (KernelIdeal.Tail.writes_ks1 (F := Ideal)) WK 1 (rest := (KernelIdeal.Tail.ks1 (F := Ideal)).drop 2) (wrest := KernelIdeal.Tail.wr_ks1.drop 2) (y := KernelIdeal.main_v203) (x := KernelIdeal.main_v202) rfl rfl (by decide +kernel) (by decide +kernel)
  have ec := final_nullary (KernelIdeal.Tail.writes_ks1 (F := Ideal)) WK 2 (rest := (KernelIdeal.Tail.ks1 (F := Ideal)).drop 3) (wrest := KernelIdeal.Tail.wr_ks1.drop 3) (y := KernelIdeal.main_c_86) rfl rfl (by decide +kernel)
  have e67 := final_unary (KernelIdeal.Tail.writes_ks1 (F := Ideal)) WK 3 (rest := (KernelIdeal.Tail.ks1 (F := Ideal)).drop 4) (wrest := KernelIdeal.Tail.wr_ks1.drop 4) (y := KernelIdeal.main_v204) (x := KernelIdeal.main_c_86) rfl rfl (by decide +kernel) (by decide +kernel)
  have e68 := final_binary (KernelIdeal.Tail.writes_ks1 (F := Ideal)) WK 4 (rest := (KernelIdeal.Tail.ks1 (F := Ideal)).drop 5) (wrest := KernelIdeal.Tail.wr_ks1.drop 5) (y := KernelIdeal.main_v205) (a := KernelIdeal.main_v203) (b := KernelIdeal.main_v204) rfl rfl (by decide +kernel) (by decide +kernel) (by decide +kernel)
  have eP : StableHlo.after (KernelIdeal.Tail.ks1 (F := Ideal)) WK (Proc.devRef .tc KernelIdeal.main_v27) = StableHlo.after (ReferenceIdeal.Hand.tlOps1 (F := Ideal)) WR (Proc.devRef .tc ReferenceIdeal.main_v189) := kP.trans (hp.trans rP.symm)
  have eLin : StableHlo.after (KernelIdeal.Tail.ks1 (F := Ideal)) WK (Proc.devRef .tc KernelIdeal.main_v203) = StableHlo.after (ReferenceIdeal.Hand.tlOps1 (F := Ideal)) WR (Proc.devRef .tc ReferenceIdeal.main_v218) := by
    rw [e66, e65, k64, rL]; exact hl
  have eVal : StableHlo.after (KernelIdeal.Tail.ks1 (F := Ideal)) WK (Proc.devRef .tc KernelIdeal.main_v205) = StableHlo.after (ReferenceIdeal.Hand.tlOps1 (F := Ideal)) WR (Proc.devRef .tc ReferenceIdeal.main_v205) := by
    rw [e68, eLin, e67, ec, rL, rV]; exact hv
  exact ⟨Fast1.h144 WK WR eP eLin eVal, Fast1.h150 WK WR eP eLin eVal, Fast1.h286 WK WR eP eLin eVal⟩

end Cert.Bridge
end
-- ==== Proof.BridgeBatch1.lean ====
import proofs.«111982_j16939351015723_2_alg».proof.Proof.BatchFast1

/-! Batch 1 of four: the operations that follow the cell ids are the same on both sides. -/

set_option maxRecDepth 16384

noncomputable section
namespace Cert.Bridge
open Idealize.ShloMosaic Idealize.ShloMosaic.TcCoe Idealize.SL.Sem Idealize.ShloMosaic.StableHlo

/-- Batch 1: from equal points, cell ids and validity mask, the kernel program's operations after the cell ids and the
    reference's leave equal voxels, point counts and coordinates (they are the same operations in the same order). -/
theorem batch1 (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v27) = WR (Proc.devRef .tc Cert.ReferenceIdeal.main_v189))
    (hl : (fun i => shapeCast (Cert.KernelIdeal.main_v203 : Ref Cert.KernelIdeal.sig .tc).ty.shape
            (extractStridedSlice Cert.KernelIdeal.S1x300000 ![1, 0] (WK (Proc.devRef .tc Cert.KernelIdeal.main_v64)) Cert.KernelIdeal.Facts₀.slices_S4x300000_S1x300000_1_0)
            Cert.KernelIdeal.Facts₀.shapeCasts_S1x300000_S300000 i) = WR (Proc.devRef .tc Cert.ReferenceIdeal.main_v218))
    (hv : cmpi .ne (WR (Proc.devRef .tc Cert.ReferenceIdeal.main_v218)) (broadcastInDim Cert.KernelIdeal.S300000 ![] Cert.KernelIdeal.Facts₀.bcast_S_S300000 (constantI Cert.KernelIdeal.S_ 32 262144#32))
            = WR (Proc.devRef .tc Cert.ReferenceIdeal.main_v205)) :
    StableHlo.after (Cert.KernelIdeal.Tail.ks1 (F := Ideal)) WK (Proc.devRef .tc Cert.KernelIdeal.main_v297)
        = StableHlo.after (Cert.ReferenceIdeal.Hand.tlOps1 (F := Ideal)) WR (Proc.devRef .tc Cert.ReferenceIdeal.main_v310)
    ∧ StableHlo.after (Cert.KernelIdeal.Tail.ks1 (F := Ideal)) WK (Proc.devRef .tc Cert.KernelIdeal.main_v302)
        = StableHlo.after (Cert.ReferenceIdeal.Hand.tlOps1 (F := Ideal)) WR (Proc.devRef .tc Cert.ReferenceIdeal.main_v315)
    ∧ StableHlo.after (Cert.KernelIdeal.Tail.ks1 (F := Ideal)) WK (Proc.devRef .tc Cert.KernelIdeal.main_v338)
        = StableHlo.after (Cert.ReferenceIdeal.Hand.tlOps1 (F := Ideal)) WR (Proc.devRef .tc Cert.ReferenceIdeal.main_v351) := by
  exact batch1' WK WR hp hl hv

end Cert.Bridge
end
-- ==== Proof.BatchFast2.lean ====
/- TABLE: batch 2 of four, the two programs' operations after the cell ids walked in step, one line per pair of
   operations; then the batch's statement from the walk's three output lines. -/
import proofs.«111982_j16939351015723_2_alg».proof.Proof.KeepK
import proofs.«111982_j16939351015723_2_alg».proof.Proof.KeepR
import proofs.«111982_j16939351015723_2_alg».proof.Proof.LockCore
import Idealize.ShloMosaic.PureOps.Ideal

set_option maxRecDepth 16384

noncomputable section
namespace Cert.Bridge.Fast2
open Idealize.ShloMosaic Idealize.ShloMosaic.TcCoe Idealize.SL.Sem Idealize.ShloMosaic.StableHlo Cert.Lock

/-! Batch 2: the kernel program's operations after its cell ids and mask, and the reference's, are the same operations
in the same order. Walked in step: line `k` says that the `k`-th results agree at the end of the two lists, from the
agreement of its operands (earlier lines, or the three inputs: points, cell ids, mask). -/

section Walk
variable (WK : Valuation KernelIdeal.τ KernelIdeal.sig (Elt Ideal)) (WR : Valuation ReferenceIdeal.τ ReferenceIdeal.sig (Elt Ideal))
  (hP : StableHlo.after (KernelIdeal.Tail.ks2 (F := Ideal)) WK (Proc.devRef .tc KernelIdeal.main_v41) = StableHlo.after (ReferenceIdeal.Hand.tlOps2 (F := Ideal)) WR (Proc.devRef .tc ReferenceIdeal.main_v365))
  (hLin : StableHlo.after (KernelIdeal.Tail.ks2 (F := Ideal)) WK (Proc.devRef .tc KernelIdeal.main_v340) = StableHlo.after (ReferenceIdeal.Hand.tlOps2 (F := Ideal)) WR (Proc.devRef .tc ReferenceIdeal.main_v394))
  (hVal : StableHlo.after (KernelIdeal.Tail.ks2 (F := Ideal)) WK (Proc.devRef .tc KernelIdeal.main_v342) = StableHlo.after (ReferenceIdeal.Hand.tlOps2 (F := Ideal)) WR (Proc.devRef .tc ReferenceIdeal.main_v381))
include hP hLin hVal

-- the contents at the end of a list are compared as they stand, never computed
attribute [local irreducible] StableHlo.after

theorem h0 : StableHlo.after (KernelIdeal.Tail.ks2 (F := Ideal)) WK (Proc.devRef .tc KernelIdeal.main_v343) = StableHlo.after (ReferenceIdeal.Hand.tlOps2 (F := Ideal)) WR (Proc.devRef .tc ReferenceIdeal.main_v395) :=
  by
  have eK := final_nullary (KernelIdeal.Tail.writes_ks2 (F := Ideal)) WK 5 (rest := (KernelIdeal.Tail.ks2 (F := Ideal)).drop 6) (wrest := KernelIdeal.Tail.wr_ks2.drop 6) (y := KernelIdeal.main_v343) rfl rfl (by decide +kernel)
  have eR := final_nullary (ReferenceIdeal.Hand.writes_tlOps2 (F := Ideal)) WR 0 (rest := (ReferenceIdeal.Hand.tlOps2 (F := Ideal)).drop 1) (wrest := ReferenceIdeal.Hand.wr_tlOps2.drop 1) (y := ReferenceIdeal.main_v395) rfl rfl (by decide +kernel)
  rw [eK, eR]
  try rfl
theorem h1 : StableHlo.after (KernelIdeal.Tail.ks2 (F := Ideal)) WK (Proc.devRef .tc KernelIdeal.main_c_139) = StableHlo.after (ReferenceIdeal.Hand.tlOps2 (F := Ideal)) WR (Proc.devRef .tc ReferenceIdeal.main_c_145) :=
  by
  have eK := final_nullary (KernelIdeal.Tail.writes_ks2 (F := Ideal)) WK 6 (rest := (KernelIdeal.Tail.ks2 (F := Ideal)).drop 7) (wrest := KernelIdeal.Tail.wr_ks2.drop 7) (y := KernelIdeal.main_c_139) rfl rfl (by decide +kernel)
  have eR := final_nullary (ReferenceIdeal.Hand.writes_tlOps2 (F := Ideal)) WR 1 (rest := (ReferenceIdeal.Hand.tlOps2 (F := Ideal)).drop 2) (wrest := ReferenceIdeal.Hand.wr_tlOps2.drop 2) (y := ReferenceIdeal.main_c_145) rfl rfl (by decide +kernel)
  rw [eK, eR]
  try rfl
theorem h2 : StableHlo.after (KernelIdeal.Tail.ks2 (F := Ideal)) WK (Proc.devRef .tc KernelIdeal.main_v344) = StableHlo.after (ReferenceIdeal.Hand.tlOps2 (F := Ideal)) WR (Proc.devRef .tc ReferenceIdeal.main_v396) :=
  by
  have eK := final_unary (KernelIdeal.Tail.writes_ks2 (F := Ideal)) WK 7 (rest := (KernelIdeal.Tail.ks2 (F := Ideal)).drop 8) (wrest := KernelIdeal.Tail.wr_ks2.drop 8) (y := KernelIdeal.main_v344) (x := KernelIdeal.main_c_139) rfl rfl (by decide +kernel) (by decide +kernel)
  have eR := final_unary (ReferenceIdeal.Hand.writes_tlOps2 (F := Ideal)) WR 2 (rest := (ReferenceIdeal.Hand.tlOps2 (F := Ideal)).drop 3) (wrest := ReferenceIdeal.Hand.wr_tlOps2.drop 3) (y := ReferenceIdeal.main_v396) (x := ReferenceIdeal.main_c_145) rfl rfl (by decide +kernel) (by decide +kernel)
  rw [eK, eR, h1 WK WR hP hLin hVal]
  try rfl
theorem h3 : StableHlo.after (KernelIdeal.Tail.ks2 (F := Ideal)) WK (Proc.devRef .tc KernelIdeal.main_c_140) = StableHlo.after (ReferenceIdeal.Hand.tlOps2 (F := Ideal)) WR (Proc.devRef .tc ReferenceIdeal.main_c_146) :=
  by
  have eK := final_nullary (KernelIdeal.Tail.writes_ks2 (F := Ideal)) WK 8 (rest := (KernelIdeal.Tail.ks2 (F := Ideal)).drop 9) (wrest := KernelIdeal.Tail.wr_ks2.drop 9) (y := KernelIdeal.main_c_140) rfl rfl (by decide +kernel)
  have eR := final_nullary (ReferenceIdeal.Hand.writes_tlOps2 (F := Ideal)) WR 3 (rest := (ReferenceIdeal.Hand.tlOps2 (F := Ideal)).drop 4) (wrest := ReferenceIdeal.Hand.wr_tlOps2.drop 4) (y := ReferenceIdeal.main_c_146) rfl rfl (by decide +kernel)
  rw [eK, eR]
  try rfl
theorem h4 : StableHlo.after (KernelIdeal.Tail.ks2 (F := Ideal)) WK (Proc.devRef .tc KernelIdeal.main_v345) = StableHlo.after (ReferenceIdeal.Hand.tlOps2 (F := Ideal)) WR (Proc.devRef .tc ReferenceIdeal.main_v397) :=
  by
  have eK := final_unary (KernelIdeal.Tail.writes_ks2 (F := Ideal)) WK 9 (rest := (KernelIdeal.Tail.ks2 (F := Ideal)).drop 10) (wrest := KernelIdeal.Tail.wr_ks2.drop 10) (y := KernelIdeal.main_v345) (x := KernelIdeal.main_c_140) rfl rfl (by decide +kernel) (by decide +kernel)
  have eR := final_unary (ReferenceIdeal.Hand.writes_tlOps2 (F := Ideal)) WR 4 (rest := (ReferenceIdeal.Hand.tlOps2 (F := Ideal)).drop 5) (wrest := ReferenceIdeal.Hand.wr_tlOps2.drop 5) (y := ReferenceIdeal.main_v397) (x := ReferenceIdeal.main_c_146) rfl rfl (by decide +kernel) (by decide +kernel)
  rw [eK, eR, h3 WK WR hP hLin hVal]
  try rfl
theorem h5 : StableHlo.after (KernelIdeal.Tail.ks2 (F := Ideal)) WK (Proc.devRef .tc KernelIdeal.main_v346) = StableHlo.after (ReferenceIdeal.Hand.tlOps2 (F := Ideal)) WR (Proc.devRef .tc ReferenceIdeal.main_v398) :=
  by
  have eK := final_binary (KernelIdeal.Tail.writes_ks2 (F := Ideal)) WK 10 (rest := (KernelIdeal.Tail.ks2 (F := Ideal)).drop 11) (wrest := KernelIdeal.Tail.wr_ks2.drop 11) (y := KernelIdeal.main_v346) (a := KernelIdeal.main_v340) (b := KernelIdeal.main_v345) rfl rfl (by decide +kernel) (by decide +kernel) (by decide +kernel)
  have eR := final_binary (ReferenceIdeal.Hand.writes_tlOps2 (F := Ideal)) WR 5 (rest := (ReferenceIdeal.Hand.tlOps2 (F := Ideal)).drop 6) (wrest := ReferenceIdeal.Hand.wr_tlOps2.drop 6) (y := ReferenceIdeal.main_v398) (a := ReferenceIdeal.main_v394) (b := ReferenceIdeal.main_v397) rfl rfl (by decide +kernel) (by decide +kernel) (by decide +kernel)
  rw [eK, eR, hLin, h4 WK WR hP hLin hVal]
  try rfl
theorem h6 : StableHlo.after (KernelIdeal.Tail.ks2 (F := Ideal)) WK (Proc.devRef .tc KernelIdeal.main_c_141) = StableHlo.after (ReferenceIdeal.Hand.tlOps2 (F := Ideal)) WR (Proc.devRef .tc ReferenceIdeal.main_c_147) :=
  by
  have eK := final_nullary (KernelIdeal.Tail.writes_ks2 (F := Ideal)) WK 11 (rest := (KernelIdeal.Tail.ks2 (F := Ideal)).drop 12) (wrest := KernelIdeal.Tail.wr_ks2.drop 12) (y := KernelIdeal.main_c_141) rfl rfl (by decide +kernel)
  have eR := final_nullary (ReferenceIdeal.Hand.writes_tlOps2 (F := Ideal)) WR 6 (rest := (ReferenceIdeal.Hand.tlOps2 (F := Ideal)).drop 7) (wrest := ReferenceIdeal.Hand.wr_tlOps2.drop 7) (y := ReferenceIdeal.main_c_147) rfl rfl (by decide +kernel)
  rw [eK, eR]
  try rfl
theorem h7 : StableHlo.after (KernelIdeal.Tail.ks2 (F := Ideal)) WK (Proc.devRef .tc KernelIdeal.main_v347) = StableHlo.after (ReferenceIdeal.Hand.tlOps2 (F := Ideal)) WR (Proc.devRef .tc ReferenceIdeal.main_v399) :=
  by
  have eK := final_unary (KernelIdeal.Tail.writes_ks2 (F := Ideal)) WK 12 (rest := (KernelIdeal.Tail.ks2 (F := Ideal)).drop 13) (wrest := KernelIdeal.Tail.wr_ks2.drop 13) (y := KernelIdeal.main_v347) (x := KernelIdeal.main_c_141) rfl rfl (by decide +kernel) (by decide +kernel)
  have eR := final_unary (ReferenceIdeal.Hand.writes_tlOps2 (F := Ideal)) WR 7 (rest := (ReferenceIdeal.Hand.tlOps2 (F := Ideal)).drop 8) (wrest := ReferenceIdeal.Hand.wr_tlOps2.drop 8) (y := ReferenceIdeal.main_v399) (x := ReferenceIdeal.main_c_147) rfl rfl (by decide +kernel) (by decide +kernel)
  rw [eK, eR, h6 WK WR hP hLin hVal]
  try rfl
theorem h8 : StableHlo.after (KernelIdeal.Tail.ks2 (F := Ideal)) WK (Proc.devRef .tc KernelIdeal.main_v348) = StableHlo.after (ReferenceIdeal.Hand.tlOps2 (F := Ideal)) WR (Proc.devRef .tc ReferenceIdeal.main_v400) :=
  by
  have eK := final_binary (KernelIdeal.Tail.writes_ks2 (F := Ideal)) WK 13 (rest := (KernelIdeal.Tail.ks2 (F := Ideal)).drop 14) (wrest := KernelIdeal.Tail.wr_ks2.drop 14) (y := KernelIdeal.main_v348) (a := KernelIdeal.main_v340) (b := KernelIdeal.main_v347) rfl rfl (by decide +kernel) (by decide +kernel) (by decide +kernel)
  have eR := final_binary (ReferenceIdeal.Hand.writes_tlOps2 (F := Ideal)) WR 8 (rest := (ReferenceIdeal.Hand.tlOps2 (F := Ideal)).drop 9) (wrest := ReferenceIdeal.Hand.wr_tlOps2.drop 9) (y := ReferenceIdeal.main_v400) (a := ReferenceIdeal.main_v394) (b := ReferenceIdeal.main_v399) rfl rfl (by decide +kernel) (by decide +kernel) (by decide +kernel)
  rw [eK, eR, hLin, h7 WK WR hP hLin hVal]
  try rfl
theorem h9 : StableHlo.after (KernelIdeal.Tail.ks2 (F := Ideal)) WK (Proc.devRef .tc KernelIdeal.main_v349) = StableHlo.after (ReferenceIdeal.Hand.tlOps2 (F := Ideal)) WR (Proc.devRef .tc ReferenceIdeal.main_v401) :=
  by
  have eK := final_ternary (KernelIdeal.Tail.writes_ks2 (F := Ideal)) WK 14 (rest := (KernelIdeal.Tail.ks2 (F := Ideal)).drop 15) (wrest := KernelIdeal.Tail.wr_ks2.drop 15) (y := KernelIdeal.main_v349) (c := KernelIdeal.main_v346) (a := KernelIdeal.main_v348) (b := KernelIdeal.main_v340) rfl rfl (by decide +kernel) (by decide +kernel) (by decide +kernel) (by decide +kernel)
  have eR := final_ternary (ReferenceIdeal.Hand.writes_tlOps2 (F := Ideal)) WR 9 (rest := (ReferenceIdeal.Hand.tlOps2 (F := Ideal)).drop 10) (wrest := ReferenceIdeal.Hand.wr_tlOps2.drop 10) (y := ReferenceIdeal.main_v401) (c := ReferenceIdeal.main_v398) (a := ReferenceIdeal.main_v400) (b := ReferenceIdeal.main_v394) rfl rfl (by decide +kernel) (by decide +kernel) (by decide +kernel) (by decide +kernel)
  rw [eK, eR, h5 WK WR hP hLin hVal, h8 WK WR hP hLin hVal, hLin]
  try rfl
theorem h10 : StableHlo.after (KernelIdeal.Tail.ks2 (F := Ideal)) WK (Proc.devRef .tc KernelIdeal.main_v350) = StableHlo.after (ReferenceIdeal.Hand.tlOps2 (F := Ideal)) WR (Proc.devRef .tc ReferenceIdeal.main_v402) :=
  by
  have eK := final_unary (KernelIdeal.Tail.writes_ks2 (F := Ideal)) WK 15 (rest := (KernelIdeal.Tail.ks2 (F := Ideal)).drop 16) (wrest := KernelIdeal.Tail.wr_ks2.drop 16) (y := KernelIdeal.main_v350) (x := KernelIdeal.main_v349) rfl rfl (by decide +kernel) (by decide +kernel)
  have eR := final_unary (ReferenceIdeal.Hand.writes_tlOps2 (F := Ideal)) WR 10 (rest := (ReferenceIdeal.Hand.tlOps2 (F := Ideal)).drop 11) (wrest := ReferenceIdeal.Hand.wr_tlOps2.drop 11) (y := ReferenceIdeal.main_v402) (x := ReferenceIdeal.main_v401) rfl rfl (by decide +kernel) (by decide +kernel)
  rw [eK, eR, h9 WK WR hP hLin hVal]
  try rfl
theorem h11 : StableHlo.after (KernelIdeal.Tail.ks2 (F := Ideal)) WK (Proc.devRef .tc KernelIdeal.main_v351) = StableHlo.after (ReferenceIdeal.Hand.tlOps2 (F := Ideal)) WR (Proc.devRef .tc ReferenceIdeal.main_v403) :=
  by
  have eK := final_ternary (KernelIdeal.Tail.writes_ks2 (F := Ideal)) WK 16 (rest := (KernelIdeal.Tail.ks2 (F := Ideal)).drop 17) (wrest := KernelIdeal.Tail.wr_ks2.drop 17) (y := KernelIdeal.main_v351) (c := KernelIdeal.main_v344) (a := KernelIdeal.main_v350) (b := KernelIdeal.main_v343) rfl rfl (by decide +kernel) (by decide +kernel) (by decide +kernel) (by decide +kernel)
  have eR := final_ternary (ReferenceIdeal.Hand.writes_tlOps2 (F := Ideal)) WR 11 (rest := (ReferenceIdeal.Hand.tlOps2 (F := Ideal)).drop 12) (wrest := ReferenceIdeal.Hand.wr_tlOps2.drop 12) (y := ReferenceIdeal.main_v403) (c := ReferenceIdeal.main_v396) (a := ReferenceIdeal.main_v402) (b := ReferenceIdeal.main_v395) rfl rfl (by decide +kernel) (by decide +kernel) (by decide +kernel) (by decide +kernel)
  rw [eK, eR, h2 WK WR hP hLin hVal, h10 WK WR hP hLin hVal, h0 WK WR hP hLin hVal]
  try rfl
theorem h12 : StableHlo.after (KernelIdeal.Tail.ks2 (F := Ideal)) WK (Proc.devRef .tc KernelIdeal.main_c_142) = StableHlo.after (ReferenceIdeal.Hand.tlOps2 (F := Ideal)) WR (Proc.devRef .tc ReferenceIdeal.main_c_148) :=
  by
  have eK := final_nullary (KernelIdeal.Tail.writes_ks2 (F := Ideal)) WK 17 (rest := (KernelIdeal.Tail.ks2 (F := Ideal)).drop 18) (wrest := KernelIdeal.Tail.wr_ks2.drop 18) (y := KernelIdeal.main_c_142) rfl rfl (by decide +kernel)
  have eR := final_nullary (ReferenceIdeal.Hand.writes_tlOps2 (F := Ideal)) WR 12 (rest := (ReferenceIdeal.Hand.tlOps2 (F := Ideal)).drop 13) (wrest := ReferenceIdeal.Hand.wr_tlOps2.drop 13) (y := ReferenceIdeal.main_c_148) rfl rfl (by decide +kernel)
  rw [eK, eR]
  try rfl
theorem h13 : StableHlo.after (KernelIdeal.Tail.ks2 (F := Ideal)) WK (Proc.devRef .tc KernelIdeal.main_v352) = StableHlo.after (ReferenceIdeal.Hand.tlOps2 (F := Ideal)) WR (Proc.devRef .tc ReferenceIdeal.main_v404) :=
  by
  have eK := final_unary (KernelIdeal.Tail.writes_ks2 (F := Ideal)) WK 18 (rest := (KernelIdeal.Tail.ks2 (F := Ideal)).drop 19) (wrest := KernelIdeal.Tail.wr_ks2.drop 19) (y := KernelIdeal.main_v352) (x := KernelIdeal.main_c_142) rfl rfl (by decide +kernel) (by decide +kernel)
  have eR := final_unary (ReferenceIdeal.Hand.writes_tlOps2 (F := Ideal)) WR 13 (rest := (ReferenceIdeal.Hand.tlOps2 (F := Ideal)).drop 14) (wrest := ReferenceIdeal.Hand.wr_tlOps2.drop 14) (y := ReferenceIdeal.main_v404) (x := ReferenceIdeal.main_c_148) rfl rfl (by decide +kernel) (by decide +kernel)
  rw [eK, eR, h12 WK WR hP hLin hVal]
  try rfl
theorem h14 : StableHlo.after (KernelIdeal.Tail.ks2 (F := Ideal)) WK (Proc.devRef .tc KernelIdeal.main_v353) = StableHlo.after (ReferenceIdeal.Hand.tlOps2 (F := Ideal)) WR (Proc.devRef .tc ReferenceIdeal.main_v405) :=
  by
  have eK := final_binary (KernelIdeal.Tail.writes_ks2 (F := Ideal)) WK 19 (rest := (KernelIdeal.Tail.ks2 (F := Ideal)).drop 20) (wrest := KernelIdeal.Tail.wr_ks2.drop 20) (y := KernelIdeal.main_v353) (a := KernelIdeal.main_v340) (b := KernelIdeal.main_v352) rfl rfl (by decide +kernel) (by decide +kernel) (by decide +kernel)
  have eR := final_binary (ReferenceIdeal.Hand.writes_tlOps2 (F := Ideal)) WR 14 (rest := (ReferenceIdeal.Hand.tlOps2 (F := Ideal)).drop 15) (wrest := ReferenceIdeal.Hand.wr_tlOps2.drop 15) (y := ReferenceIdeal.main_v405) (a := ReferenceIdeal.main_v394) (b := ReferenceIdeal.main_v404) rfl rfl (by decide +kernel) (by decide +kernel) (by decide +kernel)
  rw [eK, eR, hLin, h13 WK WR hP hLin hVal]
  try rfl
theorem h15 : StableHlo.after (KernelIdeal.Tail.ks2 (F := Ideal)) WK (Proc.devRef .tc KernelIdeal.main_c_143) = StableHlo.after (ReferenceIdeal.Hand.tlOps2 (F := Ideal)) WR (Proc.devRef .tc ReferenceIdeal.main_c_149) :=
  by
  have eK := final_nullary (KernelIdeal.Tail.writes_ks2 (F := Ideal)) WK 20 (rest := (KernelIdeal.Tail.ks2 (F := Ideal)).drop 21) (wrest := KernelIdeal.Tail.wr_ks2.drop 21) (y := KernelIdeal.main_c_143) rfl rfl (by decide +kernel)
  have eR := final_nullary (ReferenceIdeal.Hand.writes_tlOps2 (F := Ideal)) WR 15 (rest := (ReferenceIdeal.Hand.tlOps2 (F := Ideal)).drop 16) (wrest := ReferenceIdeal.Hand.wr_tlOps2.drop 16) (y := ReferenceIdeal.main_c_149) rfl rfl (by decide +kernel)
  rw [eK, eR]
  try rfl
theorem h16 : StableHlo.after (KernelIdeal.Tail.ks2 (F := Ideal)) WK (Proc.devRef .tc KernelIdeal.main_v354) = StableHlo.after (ReferenceIdeal.Hand.tlOps2 (F := Ideal)) WR (Proc.devRef .tc ReferenceIdeal.main_v406) :=
  by
  have eK := final_unary (KernelIdeal.Tail.writes_ks2 (F := Ideal)) WK 21 (rest := (KernelIdeal.Tail.ks2 (F := Ideal)).drop 22) (wrest := KernelIdeal.Tail.wr_ks2.drop 22) (y := KernelIdeal.main_v354) (x := KernelIdeal.main_c_143) rfl rfl (by decide +kernel) (by decide +kernel)
  have eR := final_unary (ReferenceIdeal.Hand.writes_tlOps2 (F := Ideal)) WR 16 (rest := (ReferenceIdeal.Hand.tlOps2 (F := Ideal)).drop 17) (wrest := ReferenceIdeal.Hand.wr_tlOps2.drop 17) (y := ReferenceIdeal.main_v406) (x := ReferenceIdeal.main_c_149) rfl rfl (by decide +kernel) (by decide +kernel)
  rw [eK, eR, h15 WK WR hP hLin hVal]
  try rfl
theorem h17 : StableHlo.after (KernelIdeal.Tail.ks2 (F := Ideal)) WK (Proc.devRef .tc KernelIdeal.main_v355) = StableHlo.after (ReferenceIdeal.Hand.tlOps2 (F := Ideal)) WR (Proc.devRef .tc ReferenceIdeal.main_v407) :=
  by
  have eK := final_binary (KernelIdeal.Tail.writes_ks2 (F := Ideal)) WK 22 (rest := (KernelIdeal.Tail.ks2 (F := Ideal)).drop 23) (wrest := KernelIdeal.Tail.wr_ks2.drop 23) (y := KernelIdeal.main_v355) (a := KernelIdeal.main_v340) (b := KernelIdeal.main_v354) rfl rfl (by decide +kernel) (by decide +kernel) (by decide +kernel)
  have eR := final_binary (ReferenceIdeal.Hand.writes_tlOps2 (F := Ideal)) WR 17 (rest := (ReferenceIdeal.Hand.tlOps2 (F := Ideal)).drop 18) (wrest := ReferenceIdeal.Hand.wr_tlOps2.drop 18) (y := ReferenceIdeal.main_v407) (a := ReferenceIdeal.main_v394) (b := ReferenceIdeal.main_v406) rfl rfl (by decide +kernel) (by decide +kernel) (by decide +kernel)
  rw [eK, eR, hLin, h16 WK WR hP hLin hVal]
  try rfl
theorem h18 : StableHlo.after (KernelIdeal.Tail.ks2 (F := Ideal)) WK (Proc.devRef .tc KernelIdeal.main_v356) = StableHlo.after (ReferenceIdeal.Hand.tlOps2 (F := Ideal)) WR (Proc.devRef .tc ReferenceIdeal.main_v408) :=
  by
  have eK := final_ternary (KernelIdeal.Tail.writes_ks2 (F := Ideal)) WK 23 (rest := (KernelIdeal.Tail.ks2 (F := Ideal)).drop 24) (wrest := KernelIdeal.Tail.wr_ks2.drop 24) (y := KernelIdeal.main_v356) (c := KernelIdeal.main_v353) (a := KernelIdeal.main_v355) (b := KernelIdeal.main_v340) rfl rfl (by decide +kernel) (by decide +kernel) (by decide +kernel) (by decide +kernel)
  have eR := final_ternary (ReferenceIdeal.Hand.writes_tlOps2 (F := Ideal)) WR 18 (rest := (ReferenceIdeal.Hand.tlOps2 (F := Ideal)).drop 19) (wrest := ReferenceIdeal.Hand.wr_tlOps2.drop 19) (y := ReferenceIdeal.main_v408) (c := ReferenceIdeal.main_v405) (a := ReferenceIdeal.main_v407) (b := ReferenceIdeal.main_v394) rfl rfl (by decide +kernel) (by decide +kernel) (by decide +kernel) (by decide +kernel)
  rw [eK, eR, h14 WK WR hP hLin hVal, h17 WK WR hP hLin hVal, hLin]
  try rfl
theorem h19 : StableHlo.after (KernelIdeal.Tail.ks2 (F := Ideal)) WK (Proc.devRef .tc KernelIdeal.main_v357) = StableHlo.after (ReferenceIdeal.Hand.tlOps2 (F := Ideal)) WR (Proc.devRef .tc ReferenceIdeal.main_v409) :=
  by
  have eK := final_unary (KernelIdeal.Tail.writes_ks2 (F := Ideal)) WK 24 (rest := (KernelIdeal.Tail.ks2 (F := Ideal)).drop 25) (wrest := KernelIdeal.Tail.wr_ks2.drop 25) (y := KernelIdeal.main_v357) (x := KernelIdeal.main_v356) rfl rfl (by decide +kernel) (by decide +kernel)
  have eR := final_unary (ReferenceIdeal.Hand.writes_tlOps2 (F := Ideal)) WR 19 (rest := (ReferenceIdeal.Hand.tlOps2 (F := Ideal)).drop 20) (wrest := ReferenceIdeal.Hand.wr_tlOps2.drop 20) (y := ReferenceIdeal.main_v409) (x := ReferenceIdeal.main_v408) rfl rfl (by decide +kernel) (by decide +kernel)
  rw [eK, eR, h18 WK WR hP hLin hVal]
  try rfl
theorem h20 : StableHlo.after (KernelIdeal.Tail.ks2 (F := Ideal)) WK (Proc.devRef .tc KernelIdeal.main_v358) = StableHlo.after (ReferenceIdeal.Hand.tlOps2 (F := Ideal)) WR (Proc.devRef .tc ReferenceIdeal.main_v410) :=
  by
  have eK := final_binary (KernelIdeal.Tail.writes_ks2 (F := Ideal)) WK 25 (rest := (KernelIdeal.Tail.ks2 (F := Ideal)).drop 26) (wrest := KernelIdeal.Tail.wr_ks2.drop 26) (y := KernelIdeal.main_v358) (a := KernelIdeal.main_v351) (b := KernelIdeal.main_v357) rfl rfl (by decide +kernel) (by decide +kernel) (by decide +kernel)
  have eR := final_binary (ReferenceIdeal.Hand.writes_tlOps2 (F := Ideal)) WR 20 (rest := (ReferenceIdeal.Hand.tlOps2 (F := Ideal)).drop 21) (wrest := ReferenceIdeal.Hand.wr_tlOps2.drop 21) (y := ReferenceIdeal.main_v410) (a := ReferenceIdeal.main_v403) (b := ReferenceIdeal.main_v409) rfl rfl (by decide +kernel) (by decide +kernel) (by decide +kernel)
  rw [eK, eR, h11 WK WR hP hLin hVal, h19 WK WR hP hLin hVal]
  try rfl
theorem h21 : StableHlo.after (KernelIdeal.Tail.ks2 (F := Ideal)) WK (Proc.devRef .tc KernelIdeal.main_v359) = StableHlo.after (ReferenceIdeal.Hand.tlOps2 (F := Ideal)) WR (Proc.devRef .tc ReferenceIdeal.main_v411) :=
  by
  have eK := final_binary (KernelIdeal.Tail.writes_ks2 (F := Ideal)) WK 26 (rest := (KernelIdeal.Tail.ks2 (F := Ideal)).drop 27) (wrest := KernelIdeal.Tail.wr_ks2.drop 27) (y := KernelIdeal.main_v359) (a := KernelIdeal.main_v358) (b := KernelIdeal.main_v343) rfl rfl (by decide +kernel) (by decide +kernel) (by decide +kernel)
  have eR := final_binary (ReferenceIdeal.Hand.writes_tlOps2 (F := Ideal)) WR 21 (rest := (ReferenceIdeal.Hand.tlOps2 (F := Ideal)).drop 22) (wrest := ReferenceIdeal.Hand.wr_tlOps2.drop 22) (y := ReferenceIdeal.main_v411) (a := ReferenceIdeal.main_v410) (b := ReferenceIdeal.main_v395) rfl rfl (by decide +kernel) (by decide +kernel) (by decide +kernel)
  rw [eK, eR, h20 WK WR hP hLin hVal, h0 WK WR hP hLin hVal]
  try rfl
theorem h22 : StableHlo.after (KernelIdeal.Tail.ks2 (F := Ideal)) WK (Proc.devRef .tc KernelIdeal.main_v360) = StableHlo.after (ReferenceIdeal.Hand.tlOps2 (F := Ideal)) WR (Proc.devRef .tc ReferenceIdeal.main_v412) :=
  by
  have eK := final_binary (KernelIdeal.Tail.writes_ks2 (F := Ideal)) WK 27 (rest := (KernelIdeal.Tail.ks2 (F := Ideal)).drop 28) (wrest := KernelIdeal.Tail.wr_ks2.drop 28) (y := KernelIdeal.main_v360) (a := KernelIdeal.main_v342) (b := KernelIdeal.main_v359) rfl rfl (by decide +kernel) (by decide +kernel) (by decide +kernel)
  have eR := final_binary (ReferenceIdeal.Hand.writes_tlOps2 (F := Ideal)) WR 22 (rest := (ReferenceIdeal.Hand.tlOps2 (F := Ideal)).drop 23) (wrest := ReferenceIdeal.Hand.wr_tlOps2.drop 23) (y := ReferenceIdeal.main_v412) (a := ReferenceIdeal.main_v381) (b := ReferenceIdeal.main_v411) rfl rfl (by decide +kernel) (by decide +kernel) (by decide +kernel)
  rw [eK, eR, hVal, h21 WK WR hP hLin hVal]
  try rfl
theorem h23 : StableHlo.after (KernelIdeal.Tail.ks2 (F := Ideal)) WK (Proc.devRef .tc KernelIdeal.main_v361) = StableHlo.after (ReferenceIdeal.Hand.tlOps2 (F := Ideal)) WR (Proc.devRef .tc ReferenceIdeal.main_v413) :=
  by
  have eK := final_unary (KernelIdeal.Tail.writes_ks2 (F := Ideal)) WK 28 (rest := (KernelIdeal.Tail.ks2 (F := Ideal)).drop 29) (wrest := KernelIdeal.Tail.wr_ks2.drop 29) (y := KernelIdeal.main_v361) (x := KernelIdeal.main_v360) rfl rfl (by decide +kernel) (by decide +kernel)
  have eR := final_unary (ReferenceIdeal.Hand.writes_tlOps2 (F := Ideal)) WR 23 (rest := (ReferenceIdeal.Hand.tlOps2 (F := Ideal)).drop 24) (wrest := ReferenceIdeal.Hand.wr_tlOps2.drop 24) (y := ReferenceIdeal.main_v413) (x := ReferenceIdeal.main_v412) rfl rfl (by decide +kernel) (by decide +kernel)
  rw [eK, eR, h22 WK WR hP hLin hVal]
  try rfl
theorem h24 : StableHlo.after (KernelIdeal.Tail.ks2 (F := Ideal)) WK (Proc.devRef .tc KernelIdeal.main_call38_call0_c) = StableHlo.after (ReferenceIdeal.Hand.tlOps2 (F := Ideal)) WR (Proc.devRef .tc ReferenceIdeal.main_call41_call0_c) :=
  by
  have eK := final_nullary (KernelIdeal.Tail.writes_ks2 (F := Ideal)) WK 29 (rest := (KernelIdeal.Tail.ks2 (F := Ideal)).drop 30) (wrest := KernelIdeal.Tail.wr_ks2.drop 30) (y := KernelIdeal.main_call38_call0_c) rfl rfl (by decide +kernel)
  have eR := final_nullary (ReferenceIdeal.Hand.writes_tlOps2 (F := Ideal)) WR 24 (rest := (ReferenceIdeal.Hand.tlOps2 (F := Ideal)).drop 25) (wrest := ReferenceIdeal.Hand.wr_tlOps2.drop 25) (y := ReferenceIdeal.main_call41_call0_c) rfl rfl (by decide +kernel)
  rw [eK, eR]
  try rfl
theorem h25 : StableHlo.after (KernelIdeal.Tail.ks2 (F := Ideal)) WK (Proc.devRef .tc KernelIdeal.main_call38_call0_v0) = StableHlo.after (ReferenceIdeal.Hand.tlOps2 (F := Ideal)) WR (Proc.devRef .tc ReferenceIdeal.main_call41_call0_v0) :=
  by
  have eK := final_unary (KernelIdeal.Tail.writes_ks2 (F := Ideal)) WK 30 (rest := (KernelIdeal.Tail.ks2 (F := Ideal)).drop 31) (wrest := KernelIdeal.Tail.wr_ks2.drop 31) (y := KernelIdeal.main_call38_call0_v0) (x := KernelIdeal.main_call38_call0_c) rfl rfl (by decide +kernel) (by decide +kernel)
  have eR := final_unary (ReferenceIdeal.Hand.writes_tlOps2 (F := Ideal)) WR 25 (rest := (ReferenceIdeal.Hand.tlOps2 (F := Ideal)).drop 26) (wrest := ReferenceIdeal.Hand.wr_tlOps2.drop 26) (y := ReferenceIdeal.main_call41_call0_v0) (x := ReferenceIdeal.main_call41_call0_c) rfl rfl (by decide +kernel) (by decide +kernel)
  rw [eK, eR, h24 WK WR hP hLin hVal]
  try rfl
theorem h26 : StableHlo.after (KernelIdeal.Tail.ks2 (F := Ideal)) WK (Proc.devRef .tc KernelIdeal.main_v362) = StableHlo.after (ReferenceIdeal.Hand.tlOps2 (F := Ideal)) WR (Proc.devRef .tc ReferenceIdeal.main_v414) :=
  by
  have eK := final_binary (KernelIdeal.Tail.writes_ks2 (F := Ideal)) WK 31 (rest := (KernelIdeal.Tail.ks2 (F := Ideal)).drop 32) (wrest := KernelIdeal.Tail.wr_ks2.drop 32) (y := KernelIdeal.main_v362) (a := KernelIdeal.main_v361) (b := KernelIdeal.main_call38_call0_v0) rfl rfl (by decide +kernel) (by decide +kernel) (by decide +kernel)
  have eR := final_binary (ReferenceIdeal.Hand.writes_tlOps2 (F := Ideal)) WR 26 (rest := (ReferenceIdeal.Hand.tlOps2 (F := Ideal)).drop 27) (wrest := ReferenceIdeal.Hand.wr_tlOps2.drop 27) (y := ReferenceIdeal.main_v414) (a := ReferenceIdeal.main_v413) (b := ReferenceIdeal.main_call41_call0_v0) rfl rfl (by decide +kernel) (by decide +kernel) (by decide +kernel)
  rw [eK, eR, h23 WK WR hP hLin hVal, h25 WK WR hP hLin hVal]
  try rfl
theorem h27 : StableHlo.after (KernelIdeal.Tail.ks2 (F := Ideal)) WK (Proc.devRef .tc KernelIdeal.main_c_144) = StableHlo.after (ReferenceIdeal.Hand.tlOps2 (F := Ideal)) WR (Proc.devRef .tc ReferenceIdeal.main_c_150) :=
  by
  have eK := final_nullary (KernelIdeal.Tail.writes_ks2 (F := Ideal)) WK 32 (rest := (KernelIdeal.Tail.ks2 (F := Ideal)).drop 33) (wrest := KernelIdeal.Tail.wr_ks2.drop 33) (y := KernelIdeal.main_c_144) rfl rfl (by decide +kernel)
  have eR := final_nullary (ReferenceIdeal.Hand.writes_tlOps2 (F := Ideal)) WR 27 (rest := (ReferenceIdeal.Hand.tlOps2 (F := Ideal)).drop 28) (wrest := ReferenceIdeal.Hand.wr_tlOps2.drop 28) (y := ReferenceIdeal.main_c_150) rfl rfl (by decide +kernel)
  rw [eK, eR]
  try rfl
theorem h28 : StableHlo.after (KernelIdeal.Tail.ks2 (F := Ideal)) WK (Proc.devRef .tc KernelIdeal.main_v363) = StableHlo.after (ReferenceIdeal.Hand.tlOps2 (F := Ideal)) WR (Proc.devRef .tc ReferenceIdeal.main_v415) :=
  by
  have eK := final_unary (KernelIdeal.Tail.writes_ks2 (F := Ideal)) WK 33 (rest := (KernelIdeal.Tail.ks2 (F := Ideal)).drop 34) (wrest := KernelIdeal.Tail.wr_ks2.drop 34) (y := KernelIdeal.main_v363) (x := KernelIdeal.main_c_144) rfl rfl (by decide +kernel) (by decide +kernel)
  have eR := final_unary (ReferenceIdeal.Hand.writes_tlOps2 (F := Ideal)) WR 28 (rest := (ReferenceIdeal.Hand.tlOps2 (F := Ideal)).drop 29) (wrest := ReferenceIdeal.Hand.wr_tlOps2.drop 29) (y := ReferenceIdeal.main_v415) (x := ReferenceIdeal.main_c_150) rfl rfl (by decide +kernel) (by decide +kernel)
  rw [eK, eR, h27 WK WR hP hLin hVal]
  try rfl
theorem h29 : StableHlo.after (KernelIdeal.Tail.ks2 (F := Ideal)) WK (Proc.devRef .tc KernelIdeal.main_v364) = StableHlo.after (ReferenceIdeal.Hand.tlOps2 (F := Ideal)) WR (Proc.devRef .tc ReferenceIdeal.main_v416) :=
  by
  have eK := final_binary (KernelIdeal.Tail.writes_ks2 (F := Ideal)) WK 34 (rest := (KernelIdeal.Tail.ks2 (F := Ideal)).drop 35) (wrest := KernelIdeal.Tail.wr_ks2.drop 35) (y := KernelIdeal.main_v364) (a := KernelIdeal.main_v362) (b := KernelIdeal.main_v363) rfl rfl (by decide +kernel) (by decide +kernel) (by decide +kernel)
  have eR := final_binary (ReferenceIdeal.Hand.writes_tlOps2 (F := Ideal)) WR 29 (rest := (ReferenceIdeal.Hand.tlOps2 (F := Ideal)).drop 30) (wrest := ReferenceIdeal.Hand.wr_tlOps2.drop 30) (y := ReferenceIdeal.main_v416) (a := ReferenceIdeal.main_v414) (b := ReferenceIdeal.main_v415) rfl rfl (by decide +kernel) (by decide +kernel) (by decide +kernel)
  rw [eK, eR, h26 WK WR hP hLin hVal, h28 WK WR hP hLin hVal]
  try rfl
theorem h30 : StableHlo.after (KernelIdeal.Tail.ks2 (F := Ideal)) WK (Proc.devRef .tc KernelIdeal.main_c_145) = StableHlo.after (ReferenceIdeal.Hand.tlOps2 (F := Ideal)) WR (Proc.devRef .tc ReferenceIdeal.main_c_151) :=
  by
  have eK := final_nullary (KernelIdeal.Tail.writes_ks2 (F := Ideal)) WK 35 (rest := (KernelIdeal.Tail.ks2 (F := Ideal)).drop 36) (wrest := KernelIdeal.Tail.wr_ks2.drop 36) (y := KernelIdeal.main_c_145) rfl rfl (by decide +kernel)
  have eR := final_nullary (ReferenceIdeal.Hand.writes_tlOps2 (F := Ideal)) WR 30 (rest := (ReferenceIdeal.Hand.tlOps2 (F := Ideal)).drop 31) (wrest := ReferenceIdeal.Hand.wr_tlOps2.drop 31) (y := ReferenceIdeal.main_c_151) rfl rfl (by decide +kernel)
  rw [eK, eR]
  try rfl
theorem h31 : StableHlo.after (KernelIdeal.Tail.ks2 (F := Ideal)) WK (Proc.devRef .tc KernelIdeal.main_v365) = StableHlo.after (ReferenceIdeal.Hand.tlOps2 (F := Ideal)) WR (Proc.devRef .tc ReferenceIdeal.main_v417) :=
  by
  have eK := final_unary (KernelIdeal.Tail.writes_ks2 (F := Ideal)) WK 36 (rest := (KernelIdeal.Tail.ks2 (F := Ideal)).drop 37) (wrest := KernelIdeal.Tail.wr_ks2.drop 37) (y := KernelIdeal.main_v365) (x := KernelIdeal.main_c_145) rfl rfl (by decide +kernel) (by decide +kernel)
  have eR := final_unary (ReferenceIdeal.Hand.writes_tlOps2 (F := Ideal)) WR 31 (rest := (ReferenceIdeal.Hand.tlOps2 (F := Ideal)).drop 32) (wrest := ReferenceIdeal.Hand.wr_tlOps2.drop 32) (y := ReferenceIdeal.main_v417) (x := ReferenceIdeal.main_c_151) rfl rfl (by decide +kernel) (by decide +kernel)
  rw [eK, eR, h30 WK WR hP hLin hVal]
  try rfl
theorem h32 : StableHlo.after (KernelIdeal.Tail.ks2 (F := Ideal)) WK (Proc.devRef .tc KernelIdeal.main_c_146) = StableHlo.after (ReferenceIdeal.Hand.tlOps2 (F := Ideal)) WR (Proc.devRef .tc ReferenceIdeal.main_c_152) :=
  by
  have eK := final_nullary (KernelIdeal.Tail.writes_ks2 (F := Ideal)) WK 37 (rest := (KernelIdeal.Tail.ks2 (F := Ideal)).drop 38) (wrest := KernelIdeal.Tail.wr_ks2.drop 38) (y := KernelIdeal.main_c_146) rfl rfl (by decide +kernel)
  have eR := final_nullary (ReferenceIdeal.Hand.writes_tlOps2 (F := Ideal)) WR 32 (rest := (ReferenceIdeal.Hand.tlOps2 (F := Ideal)).drop 33) (wrest := ReferenceIdeal.Hand.wr_tlOps2.drop 33) (y := ReferenceIdeal.main_c_152) rfl rfl (by decide +kernel)
  rw [eK, eR]
  try rfl
theorem h33 : StableHlo.after (KernelIdeal.Tail.ks2 (F := Ideal)) WK (Proc.devRef .tc KernelIdeal.main_call39_v0) = StableHlo.after (ReferenceIdeal.Hand.tlOps2 (F := Ideal)) WR (Proc.devRef .tc ReferenceIdeal.main_call42_v0) :=
  by
  have eK := final_unary (KernelIdeal.Tail.writes_ks2 (F := Ideal)) WK 38 (rest := (KernelIdeal.Tail.ks2 (F := Ideal)).drop 39) (wrest := KernelIdeal.Tail.wr_ks2.drop 39) (y := KernelIdeal.main_call39_v0) (x := KernelIdeal.main_c_146) rfl rfl (by decide +kernel) (by decide +kernel)
  have eR := final_unary (ReferenceIdeal.Hand.writes_tlOps2 (F := Ideal)) WR 33 (rest := (ReferenceIdeal.Hand.tlOps2 (F := Ideal)).drop 34) (wrest := ReferenceIdeal.Hand.wr_tlOps2.drop 34) (y := ReferenceIdeal.main_call42_v0) (x := ReferenceIdeal.main_c_152) rfl rfl (by decide +kernel) (by decide +kernel)
  rw [eK, eR, h32 WK WR hP hLin hVal]
  try rfl
theorem h34 : StableHlo.after (KernelIdeal.Tail.ks2 (F := Ideal)) WK (Proc.devRef .tc KernelIdeal.main_call39_v1) = StableHlo.after (ReferenceIdeal.Hand.tlOps2 (F := Ideal)) WR (Proc.devRef .tc ReferenceIdeal.main_call42_v1) :=
  by
  have eK := final_unary (KernelIdeal.Tail.writes_ks2 (F := Ideal)) WK 39 (rest := (KernelIdeal.Tail.ks2 (F := Ideal)).drop 40) (wrest := KernelIdeal.Tail.wr_ks2.drop 40) (y := KernelIdeal.main_call39_v1) (x := KernelIdeal.main_call39_v0) rfl rfl (by decide +kernel) (by decide +kernel)
  have eR := final_unary (ReferenceIdeal.Hand.writes_tlOps2 (F := Ideal)) WR 34 (rest := (ReferenceIdeal.Hand.tlOps2 (F := Ideal)).drop 35) (wrest := ReferenceIdeal.Hand.wr_tlOps2.drop 35) (y := ReferenceIdeal.main_call42_v1) (x := ReferenceIdeal.main_call42_v0) rfl rfl (by decide +kernel) (by decide +kernel)
  rw [eK, eR, h33 WK WR hP hLin hVal]
  try rfl
theorem h35 : StableHlo.after (KernelIdeal.Tail.ks2 (F := Ideal)) WK (Proc.devRef .tc KernelIdeal.main_v366) = StableHlo.after (ReferenceIdeal.Hand.tlOps2 (F := Ideal)) WR (Proc.devRef .tc ReferenceIdeal.main_v418) :=
  by
  have eK := final_ternary (KernelIdeal.Tail.writes_ks2 (F := Ideal)) WK 40 (rest := (KernelIdeal.Tail.ks2 (F := Ideal)).drop 41) (wrest := KernelIdeal.Tail.wr_ks2.drop 41) (y := KernelIdeal.main_v366) (c := KernelIdeal.main_v360) (a := KernelIdeal.main_v340) (b := KernelIdeal.main_call39_v1) rfl rfl (by decide +kernel) (by decide +kernel) (by decide +kernel) (by decide +kernel)
  have eR := final_ternary (ReferenceIdeal.Hand.writes_tlOps2 (F := Ideal)) WR 35 (rest := (ReferenceIdeal.Hand.tlOps2 (F := Ideal)).drop 36) (wrest := ReferenceIdeal.Hand.wr_tlOps2.drop 36) (y := ReferenceIdeal.main_v418) (c := ReferenceIdeal.main_v412) (a := ReferenceIdeal.main_v394) (b := ReferenceIdeal.main_call42_v1) rfl rfl (by decide +kernel) (by decide +kernel) (by decide +kernel) (by decide +kernel)
  rw [eK, eR, h22 WK WR hP hLin hVal, hLin, h34 WK WR hP hLin hVal]
  try rfl
theorem h36 : StableHlo.after (KernelIdeal.Tail.ks2 (F := Ideal)) WK (Proc.devRef .tc KernelIdeal.main_c_147) = StableHlo.after (ReferenceIdeal.Hand.tlOps2 (F := Ideal)) WR (Proc.devRef .tc ReferenceIdeal.main_c_153) :=
  by
  have eK := final_nullary (KernelIdeal.Tail.writes_ks2 (F := Ideal)) WK 41 (rest := (KernelIdeal.Tail.ks2 (F := Ideal)).drop 42) (wrest := KernelIdeal.Tail.wr_ks2.drop 42) (y := KernelIdeal.main_c_147) rfl rfl (by decide +kernel)
  have eR := final_nullary (ReferenceIdeal.Hand.writes_tlOps2 (F := Ideal)) WR 36 (rest := (ReferenceIdeal.Hand.tlOps2 (F := Ideal)).drop 37) (wrest := ReferenceIdeal.Hand.wr_tlOps2.drop 37) (y := ReferenceIdeal.main_c_153) rfl rfl (by decide +kernel)
  rw [eK, eR]
  try rfl
theorem h37 : StableHlo.after (KernelIdeal.Tail.ks2 (F := Ideal)) WK (Proc.devRef .tc KernelIdeal.main_v367) = StableHlo.after (ReferenceIdeal.Hand.tlOps2 (F := Ideal)) WR (Proc.devRef .tc ReferenceIdeal.main_v419) :=
  by
  have eK := final_unary (KernelIdeal.Tail.writes_ks2 (F := Ideal)) WK 42 (rest := (KernelIdeal.Tail.ks2 (F := Ideal)).drop 43) (wrest := KernelIdeal.Tail.wr_ks2.drop 43) (y := KernelIdeal.main_v367) (x := KernelIdeal.main_c_147) rfl rfl (by decide +kernel) (by decide +kernel)
  have eR := final_unary (ReferenceIdeal.Hand.writes_tlOps2 (F := Ideal)) WR 37 (rest := (ReferenceIdeal.Hand.tlOps2 (F := Ideal)).drop 38) (wrest := ReferenceIdeal.Hand.wr_tlOps2.drop 38) (y := ReferenceIdeal.main_v419) (x := ReferenceIdeal.main_c_153) rfl rfl (by decide +kernel) (by decide +kernel)
  rw [eK, eR, h36 WK WR hP hLin hVal]
  try rfl
theorem h38 : StableHlo.after (KernelIdeal.Tail.ks2 (F := Ideal)) WK (Proc.devRef .tc KernelIdeal.main_v368) = StableHlo.after (ReferenceIdeal.Hand.tlOps2 (F := Ideal)) WR (Proc.devRef .tc ReferenceIdeal.main_v420) :=
  by
  have eK := final_binary (KernelIdeal.Tail.writes_ks2 (F := Ideal)) WK 43 (rest := (KernelIdeal.Tail.ks2 (F := Ideal)).drop 44) (wrest := KernelIdeal.Tail.wr_ks2.drop 44) (y := KernelIdeal.main_v368) (a := KernelIdeal.main_v364) (b := KernelIdeal.main_v367) rfl rfl (by decide +kernel) (by decide +kernel) (by decide +kernel)
  have eR := final_binary (ReferenceIdeal.Hand.writes_tlOps2 (F := Ideal)) WR 38 (rest := (ReferenceIdeal.Hand.tlOps2 (F := Ideal)).drop 39) (wrest := ReferenceIdeal.Hand.wr_tlOps2.drop 39) (y := ReferenceIdeal.main_v420) (a := ReferenceIdeal.main_v416) (b := ReferenceIdeal.main_v419) rfl rfl (by decide +kernel) (by decide +kernel) (by decide +kernel)
  rw [eK, eR, h29 WK WR hP hLin hVal, h37 WK WR hP hLin hVal]
  try rfl
theorem h39 : StableHlo.after (KernelIdeal.Tail.ks2 (F := Ideal)) WK (Proc.devRef .tc KernelIdeal.main_c_148) = StableHlo.after (ReferenceIdeal.Hand.tlOps2 (F := Ideal)) WR (Proc.devRef .tc ReferenceIdeal.main_c_154) :=
  by
  have eK := final_nullary (KernelIdeal.Tail.writes_ks2 (F := Ideal)) WK 44 (rest := (KernelIdeal.Tail.ks2 (F := Ideal)).drop 45) (wrest := KernelIdeal.Tail.wr_ks2.drop 45) (y := KernelIdeal.main_c_148) rfl rfl (by decide +kernel)
  have eR := final_nullary (ReferenceIdeal.Hand.writes_tlOps2 (F := Ideal)) WR 39 (rest := (ReferenceIdeal.Hand.tlOps2 (F := Ideal)).drop 40) (wrest := ReferenceIdeal.Hand.wr_tlOps2.drop 40) (y := ReferenceIdeal.main_c_154) rfl rfl (by decide +kernel)
  rw [eK, eR]
  try rfl
theorem h40 : StableHlo.after (KernelIdeal.Tail.ks2 (F := Ideal)) WK (Proc.devRef .tc KernelIdeal.main_call40_v0) = StableHlo.after (ReferenceIdeal.Hand.tlOps2 (F := Ideal)) WR (Proc.devRef .tc ReferenceIdeal.main_call43_v0) :=
  by
  have eK := final_unary (KernelIdeal.Tail.writes_ks2 (F := Ideal)) WK 45 (rest := (KernelIdeal.Tail.ks2 (F := Ideal)).drop 46) (wrest := KernelIdeal.Tail.wr_ks2.drop 46) (y := KernelIdeal.main_call40_v0) (x := KernelIdeal.main_c_148) rfl rfl (by decide +kernel) (by decide +kernel)
  have eR := final_unary (ReferenceIdeal.Hand.writes_tlOps2 (F := Ideal)) WR 40 (rest := (ReferenceIdeal.Hand.tlOps2 (F := Ideal)).drop 41) (wrest := ReferenceIdeal.Hand.wr_tlOps2.drop 41) (y := ReferenceIdeal.main_call43_v0) (x := ReferenceIdeal.main_c_154) rfl rfl (by decide +kernel) (by decide +kernel)
  rw [eK, eR, h39 WK WR hP hLin hVal]
  try rfl
theorem h41 : StableHlo.after (KernelIdeal.Tail.ks2 (F := Ideal)) WK (Proc.devRef .tc KernelIdeal.main_call40_v1) = StableHlo.after (ReferenceIdeal.Hand.tlOps2 (F := Ideal)) WR (Proc.devRef .tc ReferenceIdeal.main_call43_v1) :=
  by
  have eK := final_unary (KernelIdeal.Tail.writes_ks2 (F := Ideal)) WK 46 (rest := (KernelIdeal.Tail.ks2 (F := Ideal)).drop 47) (wrest := KernelIdeal.Tail.wr_ks2.drop 47) (y := KernelIdeal.main_call40_v1) (x := KernelIdeal.main_call40_v0) rfl rfl (by decide +kernel) (by decide +kernel)
  have eR := final_unary (ReferenceIdeal.Hand.writes_tlOps2 (F := Ideal)) WR 41 (rest := (ReferenceIdeal.Hand.tlOps2 (F := Ideal)).drop 42) (wrest := ReferenceIdeal.Hand.wr_tlOps2.drop 42) (y := ReferenceIdeal.main_call43_v1) (x := ReferenceIdeal.main_call43_v0) rfl rfl (by decide +kernel) (by decide +kernel)
  rw [eK, eR, h40 WK WR hP hLin hVal]
  try rfl
theorem h42 : StableHlo.after (KernelIdeal.Tail.ks2 (F := Ideal)) WK (Proc.devRef .tc KernelIdeal.main_v369) = StableHlo.after (ReferenceIdeal.Hand.tlOps2 (F := Ideal)) WR (Proc.devRef .tc ReferenceIdeal.main_v421) :=
  by
  have eK := final_ternary (KernelIdeal.Tail.writes_ks2 (F := Ideal)) WK 47 (rest := (KernelIdeal.Tail.ks2 (F := Ideal)).drop 48) (wrest := KernelIdeal.Tail.wr_ks2.drop 48) (y := KernelIdeal.main_v369) (c := KernelIdeal.main_v360) (a := KernelIdeal.main_v368) (b := KernelIdeal.main_call40_v1) rfl rfl (by decide +kernel) (by decide +kernel) (by decide +kernel) (by decide +kernel)
  have eR := final_ternary (ReferenceIdeal.Hand.writes_tlOps2 (F := Ideal)) WR 42 (rest := (ReferenceIdeal.Hand.tlOps2 (F := Ideal)).drop 43) (wrest := ReferenceIdeal.Hand.wr_tlOps2.drop 43) (y := ReferenceIdeal.main_v421) (c := ReferenceIdeal.main_v412) (a := ReferenceIdeal.main_v420) (b := ReferenceIdeal.main_call43_v1) rfl rfl (by decide +kernel) (by decide +kernel) (by decide +kernel) (by decide +kernel)
  rw [eK, eR, h22 WK WR hP hLin hVal, h38 WK WR hP hLin hVal, h41 WK WR hP hLin hVal]
  try rfl
theorem h43 : StableHlo.after (KernelIdeal.Tail.ks2 (F := Ideal)) WK (Proc.devRef .tc KernelIdeal.main_c_149) = StableHlo.after (ReferenceIdeal.Hand.tlOps2 (F := Ideal)) WR (Proc.devRef .tc ReferenceIdeal.main_c_155) :=
  by
  have eK := final_nullary (KernelIdeal.Tail.writes_ks2 (F := Ideal)) WK 48 (rest := (KernelIdeal.Tail.ks2 (F := Ideal)).drop 49) (wrest := KernelIdeal.Tail.wr_ks2.drop 49) (y := KernelIdeal.main_c_149) rfl rfl (by decide +kernel)
  have eR := final_nullary (ReferenceIdeal.Hand.writes_tlOps2 (F := Ideal)) WR 43 (rest := (ReferenceIdeal.Hand.tlOps2 (F := Ideal)).drop 44) (wrest := ReferenceIdeal.Hand.wr_tlOps2.drop 44) (y := ReferenceIdeal.main_c_155) rfl rfl (by decide +kernel)
  rw [eK, eR]
  try rfl
theorem h44 : StableHlo.after (KernelIdeal.Tail.ks2 (F := Ideal)) WK (Proc.devRef .tc KernelIdeal.main_v370) = StableHlo.after (ReferenceIdeal.Hand.tlOps2 (F := Ideal)) WR (Proc.devRef .tc ReferenceIdeal.main_v422) :=
  by
  have eK := final_unary (KernelIdeal.Tail.writes_ks2 (F := Ideal)) WK 49 (rest := (KernelIdeal.Tail.ks2 (F := Ideal)).drop 50) (wrest := KernelIdeal.Tail.wr_ks2.drop 50) (y := KernelIdeal.main_v370) (x := KernelIdeal.main_c_149) rfl rfl (by decide +kernel) (by decide +kernel)
  have eR := final_unary (ReferenceIdeal.Hand.writes_tlOps2 (F := Ideal)) WR 44 (rest := (ReferenceIdeal.Hand.tlOps2 (F := Ideal)).drop 45) (wrest := ReferenceIdeal.Hand.wr_tlOps2.drop 45) (y := ReferenceIdeal.main_v422) (x := ReferenceIdeal.main_c_155) rfl rfl (by decide +kernel) (by decide +kernel)
  rw [eK, eR, h43 WK WR hP hLin hVal]
  try rfl
theorem h45 : StableHlo.after (KernelIdeal.Tail.ks2 (F := Ideal)) WK (Proc.devRef .tc KernelIdeal.main_v371) = StableHlo.after (ReferenceIdeal.Hand.tlOps2 (F := Ideal)) WR (Proc.devRef .tc ReferenceIdeal.main_v423) :=
  by
  have eK := final_binary (KernelIdeal.Tail.writes_ks2 (F := Ideal)) WK 50 (rest := (KernelIdeal.Tail.ks2 (F := Ideal)).drop 51) (wrest := KernelIdeal.Tail.wr_ks2.drop 51) (y := KernelIdeal.main_v371) (a := KernelIdeal.main_v366) (b := KernelIdeal.main_v370) rfl rfl (by decide +kernel) (by decide +kernel) (by decide +kernel)
  have eR := final_binary (ReferenceIdeal.Hand.writes_tlOps2 (F := Ideal)) WR 45 (rest := (ReferenceIdeal.Hand.tlOps2 (F := Ideal)).drop 46) (wrest := ReferenceIdeal.Hand.wr_tlOps2.drop 46) (y := ReferenceIdeal.main_v423) (a := ReferenceIdeal.main_v418) (b := ReferenceIdeal.main_v422) rfl rfl (by decide +kernel) (by decide +kernel) (by decide +kernel)
  rw [eK, eR, h35 WK WR hP hLin hVal, h44 WK WR hP hLin hVal]
  try rfl
theorem h46 : StableHlo.after (KernelIdeal.Tail.ks2 (F := Ideal)) WK (Proc.devRef .tc KernelIdeal.main_c_150) = StableHlo.after (ReferenceIdeal.Hand.tlOps2 (F := Ideal)) WR (Proc.devRef .tc ReferenceIdeal.main_c_156) :=
  by
  have eK := final_nullary (KernelIdeal.Tail.writes_ks2 (F := Ideal)) WK 51 (rest := (KernelIdeal.Tail.ks2 (F := Ideal)).drop 52) (wrest := KernelIdeal.Tail.wr_ks2.drop 52) (y := KernelIdeal.main_c_150) rfl rfl (by decide +kernel)
  have eR := final_nullary (ReferenceIdeal.Hand.writes_tlOps2 (F := Ideal)) WR 46 (rest := (ReferenceIdeal.Hand.tlOps2 (F := Ideal)).drop 47) (wrest := ReferenceIdeal.Hand.wr_tlOps2.drop 47) (y := ReferenceIdeal.main_c_156) rfl rfl (by decide +kernel)
  rw [eK, eR]
  try rfl
theorem h47 : StableHlo.after (KernelIdeal.Tail.ks2 (F := Ideal)) WK (Proc.devRef .tc KernelIdeal.main_v372) = StableHlo.after (ReferenceIdeal.Hand.tlOps2 (F := Ideal)) WR (Proc.devRef .tc ReferenceIdeal.main_v424) :=
  by
  have eK := final_unary (KernelIdeal.Tail.writes_ks2 (F := Ideal)) WK 52 (rest := (KernelIdeal.Tail.ks2 (F := Ideal)).drop 53) (wrest := KernelIdeal.Tail.wr_ks2.drop 53) (y := KernelIdeal.main_v372) (x := KernelIdeal.main_c_150) rfl rfl (by decide +kernel) (by decide +kernel)
  have eR := final_unary (ReferenceIdeal.Hand.writes_tlOps2 (F := Ideal)) WR 47 (rest := (ReferenceIdeal.Hand.tlOps2 (F := Ideal)).drop 48) (wrest := ReferenceIdeal.Hand.wr_tlOps2.drop 48) (y := ReferenceIdeal.main_v424) (x := ReferenceIdeal.main_c_156) rfl rfl (by decide +kernel) (by decide +kernel)
  rw [eK, eR, h46 WK WR hP hLin hVal]
  try rfl
theorem h48 : StableHlo.after (KernelIdeal.Tail.ks2 (F := Ideal)) WK (Proc.devRef .tc KernelIdeal.main_v373) = StableHlo.after (ReferenceIdeal.Hand.tlOps2 (F := Ideal)) WR (Proc.devRef .tc ReferenceIdeal.main_v425) :=
  by
  have eK := final_binary (KernelIdeal.Tail.writes_ks2 (F := Ideal)) WK 53 (rest := (KernelIdeal.Tail.ks2 (F := Ideal)).drop 54) (wrest := KernelIdeal.Tail.wr_ks2.drop 54) (y := KernelIdeal.main_v373) (a := KernelIdeal.main_v366) (b := KernelIdeal.main_v372) rfl rfl (by decide +kernel) (by decide +kernel) (by decide +kernel)
  have eR := final_binary (ReferenceIdeal.Hand.writes_tlOps2 (F := Ideal)) WR 48 (rest := (ReferenceIdeal.Hand.tlOps2 (F := Ideal)).drop 49) (wrest := ReferenceIdeal.Hand.wr_tlOps2.drop 49) (y := ReferenceIdeal.main_v425) (a := ReferenceIdeal.main_v418) (b := ReferenceIdeal.main_v424) rfl rfl (by decide +kernel) (by decide +kernel) (by decide +kernel)
  rw [eK, eR, h35 WK WR hP hLin hVal, h47 WK WR hP hLin hVal]
  try rfl
theorem h49 : StableHlo.after (KernelIdeal.Tail.ks2 (F := Ideal)) WK (Proc.devRef .tc KernelIdeal.main_v374) = StableHlo.after (ReferenceIdeal.Hand.tlOps2 (F := Ideal)) WR (Proc.devRef .tc ReferenceIdeal.main_v426) :=
  by
  have eK := final_ternary (KernelIdeal.Tail.writes_ks2 (F := Ideal)) WK 54 (rest := (KernelIdeal.Tail.ks2 (F := Ideal)).drop 55) (wrest := KernelIdeal.Tail.wr_ks2.drop 55) (y := KernelIdeal.main_v374) (c := KernelIdeal.main_v371) (a := KernelIdeal.main_v373) (b := KernelIdeal.main_v366) rfl rfl (by decide +kernel) (by decide +kernel) (by decide +kernel) (by decide +kernel)
  have eR := final_ternary (ReferenceIdeal.Hand.writes_tlOps2 (F := Ideal)) WR 49 (rest := (ReferenceIdeal.Hand.tlOps2 (F := Ideal)).drop 50) (wrest := ReferenceIdeal.Hand.wr_tlOps2.drop 50) (y := ReferenceIdeal.main_v426) (c := ReferenceIdeal.main_v423) (a := ReferenceIdeal.main_v425) (b := ReferenceIdeal.main_v418) rfl rfl (by decide +kernel) (by decide +kernel) (by decide +kernel) (by decide +kernel)
  rw [eK, eR, h45 WK WR hP hLin hVal, h48 WK WR hP hLin hVal, h35 WK WR hP hLin hVal]
  try rfl
theorem h50 : StableHlo.after (KernelIdeal.Tail.ks2 (F := Ideal)) WK (Proc.devRef .tc KernelIdeal.main_v375) = StableHlo.after (ReferenceIdeal.Hand.tlOps2 (F := Ideal)) WR (Proc.devRef .tc ReferenceIdeal.main_v427) :=
  by
  have eK := final_unary (KernelIdeal.Tail.writes_ks2 (F := Ideal)) WK 55 (rest := (KernelIdeal.Tail.ks2 (F := Ideal)).drop 56) (wrest := KernelIdeal.Tail.wr_ks2.drop 56) (y := KernelIdeal.main_v375) (x := KernelIdeal.main_v374) rfl rfl (by decide +kernel) (by decide +kernel)
  have eR := final_unary (ReferenceIdeal.Hand.writes_tlOps2 (F := Ideal)) WR 50 (rest := (ReferenceIdeal.Hand.tlOps2 (F := Ideal)).drop 51) (wrest := ReferenceIdeal.Hand.wr_tlOps2.drop 51) (y := ReferenceIdeal.main_v427) (x := ReferenceIdeal.main_v426) rfl rfl (by decide +kernel) (by decide +kernel)
  rw [eK, eR, h49 WK WR hP hLin hVal]
  try rfl
theorem h51 : StableHlo.after (KernelIdeal.Tail.ks2 (F := Ideal)) WK (Proc.devRef .tc KernelIdeal.main_v376) = StableHlo.after (ReferenceIdeal.Hand.tlOps2 (F := Ideal)) WR (Proc.devRef .tc ReferenceIdeal.main_v428) :=
  by
  have eK := final_ternary (KernelIdeal.Tail.writes_ks2 (F := Ideal)) WK 56 (rest := (KernelIdeal.Tail.ks2 (F := Ideal)).drop 57) (wrest := KernelIdeal.Tail.wr_ks2.drop 57) (y := KernelIdeal.main_v376) (c := KernelIdeal.main_v365) (a := KernelIdeal.main_v375) (b := KernelIdeal.main_v369) rfl rfl (by decide +kernel) (by decide +kernel) (by decide +kernel) (by decide +kernel)
  have eR := final_ternary (ReferenceIdeal.Hand.writes_tlOps2 (F := Ideal)) WR 51 (rest := (ReferenceIdeal.Hand.tlOps2 (F := Ideal)).drop 52) (wrest := ReferenceIdeal.Hand.wr_tlOps2.drop 52) (y := ReferenceIdeal.main_v428) (c := ReferenceIdeal.main_v417) (a := ReferenceIdeal.main_v427) (b := ReferenceIdeal.main_v421) rfl rfl (by decide +kernel) (by decide +kernel) (by decide +kernel) (by decide +kernel)
  rw [eK, eR, h31 WK WR hP hLin hVal, h50 WK WR hP hLin hVal, h42 WK WR hP hLin hVal]
  try rfl
theorem h52 : StableHlo.after (KernelIdeal.Tail.ks2 (F := Ideal)) WK (Proc.devRef .tc KernelIdeal.main_c_151) = StableHlo.after (ReferenceIdeal.Hand.tlOps2 (F := Ideal)) WR (Proc.devRef .tc ReferenceIdeal.main_c_157) :=
  by
  have eK := final_nullary (KernelIdeal.Tail.writes_ks2 (F := Ideal)) WK 57 (rest := (KernelIdeal.Tail.ks2 (F := Ideal)).drop 58) (wrest := KernelIdeal.Tail.wr_ks2.drop 58) (y := KernelIdeal.main_c_151) rfl rfl (by decide +kernel)
  have eR := final_nullary (ReferenceIdeal.Hand.writes_tlOps2 (F := Ideal)) WR 52 (rest := (ReferenceIdeal.Hand.tlOps2 (F := Ideal)).drop 53) (wrest := ReferenceIdeal.Hand.wr_tlOps2.drop 53) (y := ReferenceIdeal.main_c_157) rfl rfl (by decide +kernel)
  rw [eK, eR]
  try rfl
theorem h53 : StableHlo.after (KernelIdeal.Tail.ks2 (F := Ideal)) WK (Proc.devRef .tc KernelIdeal.main_v377) = StableHlo.after (ReferenceIdeal.Hand.tlOps2 (F := Ideal)) WR (Proc.devRef .tc ReferenceIdeal.main_v429) :=
  by
  have eK := final_unary (KernelIdeal.Tail.writes_ks2 (F := Ideal)) WK 58 (rest := (KernelIdeal.Tail.ks2 (F := Ideal)).drop 59) (wrest := KernelIdeal.Tail.wr_ks2.drop 59) (y := KernelIdeal.main_v377) (x := KernelIdeal.main_c_151) rfl rfl (by decide +kernel) (by decide +kernel)
  have eR := final_unary (ReferenceIdeal.Hand.writes_tlOps2 (F := Ideal)) WR 53 (rest := (ReferenceIdeal.Hand.tlOps2 (F := Ideal)).drop 54) (wrest := ReferenceIdeal.Hand.wr_tlOps2.drop 54) (y := ReferenceIdeal.main_v429) (x := ReferenceIdeal.main_c_157) rfl rfl (by decide +kernel) (by decide +kernel)
  rw [eK, eR, h52 WK WR hP hLin hVal]
  try rfl
theorem h54 : StableHlo.after (KernelIdeal.Tail.ks2 (F := Ideal)) WK (Proc.devRef .tc KernelIdeal.main_v378) = StableHlo.after (ReferenceIdeal.Hand.tlOps2 (F := Ideal)) WR (Proc.devRef .tc ReferenceIdeal.main_v430) :=
  by
  have eK := final_binary (KernelIdeal.Tail.writes_ks2 (F := Ideal)) WK 59 (rest := (KernelIdeal.Tail.ks2 (F := Ideal)).drop 60) (wrest := KernelIdeal.Tail.wr_ks2.drop 60) (y := KernelIdeal.main_v378) (a := KernelIdeal.main_v340) (b := KernelIdeal.main_v377) rfl rfl (by decide +kernel) (by decide +kernel) (by decide +kernel)
  have eR := final_binary (ReferenceIdeal.Hand.writes_tlOps2 (F := Ideal)) WR 54 (rest := (ReferenceIdeal.Hand.tlOps2 (F := Ideal)).drop 55) (wrest := ReferenceIdeal.Hand.wr_tlOps2.drop 55) (y := ReferenceIdeal.main_v430) (a := ReferenceIdeal.main_v394) (b := ReferenceIdeal.main_v429) rfl rfl (by decide +kernel) (by decide +kernel) (by decide +kernel)
  rw [eK, eR, hLin, h53 WK WR hP hLin hVal]
  try rfl
theorem h55 : StableHlo.after (KernelIdeal.Tail.ks2 (F := Ideal)) WK (Proc.devRef .tc KernelIdeal.main_c_152) = StableHlo.after (ReferenceIdeal.Hand.tlOps2 (F := Ideal)) WR (Proc.devRef .tc ReferenceIdeal.main_c_158) :=
  by
  have eK := final_nullary (KernelIdeal.Tail.writes_ks2 (F := Ideal)) WK 60 (rest := (KernelIdeal.Tail.ks2 (F := Ideal)).drop 61) (wrest := KernelIdeal.Tail.wr_ks2.drop 61) (y := KernelIdeal.main_c_152) rfl rfl (by decide +kernel)
  have eR := final_nullary (ReferenceIdeal.Hand.writes_tlOps2 (F := Ideal)) WR 55 (rest := (ReferenceIdeal.Hand.tlOps2 (F := Ideal)).drop 56) (wrest := ReferenceIdeal.Hand.wr_tlOps2.drop 56) (y := ReferenceIdeal.main_c_158) rfl rfl (by decide +kernel)
  rw [eK, eR]
  try rfl
theorem h56 : StableHlo.after (KernelIdeal.Tail.ks2 (F := Ideal)) WK (Proc.devRef .tc KernelIdeal.main_v379) = StableHlo.after (ReferenceIdeal.Hand.tlOps2 (F := Ideal)) WR (Proc.devRef .tc ReferenceIdeal.main_v431) :=
  by
  have eK := final_unary (KernelIdeal.Tail.writes_ks2 (F := Ideal)) WK 61 (rest := (KernelIdeal.Tail.ks2 (F := Ideal)).drop 62) (wrest := KernelIdeal.Tail.wr_ks2.drop 62) (y := KernelIdeal.main_v379) (x := KernelIdeal.main_c_152) rfl rfl (by decide +kernel) (by decide +kernel)
  have eR := final_unary (ReferenceIdeal.Hand.writes_tlOps2 (F := Ideal)) WR 56 (rest := (ReferenceIdeal.Hand.tlOps2 (F := Ideal)).drop 57) (wrest := ReferenceIdeal.Hand.wr_tlOps2.drop 57) (y := ReferenceIdeal.main_v431) (x := ReferenceIdeal.main_c_158) rfl rfl (by decide +kernel) (by decide +kernel)
  rw [eK, eR, h55 WK WR hP hLin hVal]
  try rfl
theorem h57 : StableHlo.after (KernelIdeal.Tail.ks2 (F := Ideal)) WK (Proc.devRef .tc KernelIdeal.main_v380) = StableHlo.after (ReferenceIdeal.Hand.tlOps2 (F := Ideal)) WR (Proc.devRef .tc ReferenceIdeal.main_v432) :=
  by
  have eK := final_binary (KernelIdeal.Tail.writes_ks2 (F := Ideal)) WK 62 (rest := (KernelIdeal.Tail.ks2 (F := Ideal)).drop 63) (wrest := KernelIdeal.Tail.wr_ks2.drop 63) (y := KernelIdeal.main_v380) (a := KernelIdeal.main_v340) (b := KernelIdeal.main_v379) rfl rfl (by decide +kernel) (by decide +kernel) (by decide +kernel)
  have eR := final_binary (ReferenceIdeal.Hand.writes_tlOps2 (F := Ideal)) WR 57 (rest := (ReferenceIdeal.Hand.tlOps2 (F := Ideal)).drop 58) (wrest := ReferenceIdeal.Hand.wr_tlOps2.drop 58) (y := ReferenceIdeal.main_v432) (a := ReferenceIdeal.main_v394) (b := ReferenceIdeal.main_v431) rfl rfl (by decide +kernel) (by decide +kernel) (by decide +kernel)
  rw [eK, eR, hLin, h56 WK WR hP hLin hVal]
  try rfl
theorem h58 : StableHlo.after (KernelIdeal.Tail.ks2 (F := Ideal)) WK (Proc.devRef .tc KernelIdeal.main_v381) = StableHlo.after (ReferenceIdeal.Hand.tlOps2 (F := Ideal)) WR (Proc.devRef .tc ReferenceIdeal.main_v433) :=
  by
  have eK := final_ternary (KernelIdeal.Tail.writes_ks2 (F := Ideal)) WK 63 (rest := (KernelIdeal.Tail.ks2 (F := Ideal)).drop 64) (wrest := KernelIdeal.Tail.wr_ks2.drop 64) (y := KernelIdeal.main_v381) (c := KernelIdeal.main_v378) (a := KernelIdeal.main_v380) (b := KernelIdeal.main_v340) rfl rfl (by decide +kernel) (by decide +kernel) (by decide +kernel) (by decide +kernel)
  have eR := final_ternary (ReferenceIdeal.Hand.writes_tlOps2 (F := Ideal)) WR 58 (rest := (ReferenceIdeal.Hand.tlOps2 (F := Ideal)).drop 59) (wrest := ReferenceIdeal.Hand.wr_tlOps2.drop 59) (y := ReferenceIdeal.main_v433) (c := ReferenceIdeal.main_v430) (a := ReferenceIdeal.main_v432) (b := ReferenceIdeal.main_v394) rfl rfl (by decide +kernel) (by decide +kernel) (by decide +kernel) (by decide +kernel)
  rw [eK, eR, h54 WK WR hP hLin hVal, h57 WK WR hP hLin hVal, hLin]
  try rfl
theorem h59 : StableHlo.after (KernelIdeal.Tail.ks2 (F := Ideal)) WK (Proc.devRef .tc KernelIdeal.main_v382) = StableHlo.after (ReferenceIdeal.Hand.tlOps2 (F := Ideal)) WR (Proc.devRef .tc ReferenceIdeal.main_v434) :=
  by
  have eK := final_unary (KernelIdeal.Tail.writes_ks2 (F := Ideal)) WK 64 (rest := (KernelIdeal.Tail.ks2 (F := Ideal)).drop 65) (wrest := KernelIdeal.Tail.wr_ks2.drop 65) (y := KernelIdeal.main_v382) (x := KernelIdeal.main_v381) rfl rfl (by decide +kernel) (by decide +kernel)
  have eR := final_unary (ReferenceIdeal.Hand.writes_tlOps2 (F := Ideal)) WR 59 (rest := (ReferenceIdeal.Hand.tlOps2 (F := Ideal)).drop 60) (wrest := ReferenceIdeal.Hand.wr_tlOps2.drop 60) (y := ReferenceIdeal.main_v434) (x := ReferenceIdeal.main_v433) rfl rfl (by decide +kernel) (by decide +kernel)
  rw [eK, eR, h58 WK WR hP hLin hVal]
  try rfl
theorem h60 : StableHlo.after (KernelIdeal.Tail.ks2 (F := Ideal)) WK (Proc.devRef .tc KernelIdeal.main_v383) = StableHlo.after (ReferenceIdeal.Hand.tlOps2 (F := Ideal)) WR (Proc.devRef .tc ReferenceIdeal.main_v435) :=
  by
  have eK := final_binary (KernelIdeal.Tail.writes_ks2 (F := Ideal)) WK 65 (rest := (KernelIdeal.Tail.ks2 (F := Ideal)).drop 66) (wrest := KernelIdeal.Tail.wr_ks2.drop 66) (y := KernelIdeal.main_v383) (a := KernelIdeal.main_v376) (b := KernelIdeal.main_v382) rfl rfl (by decide +kernel) (by decide +kernel) (by decide +kernel)
  have eR := final_binary (ReferenceIdeal.Hand.writes_tlOps2 (F := Ideal)) WR 60 (rest := (ReferenceIdeal.Hand.tlOps2 (F := Ideal)).drop 61) (wrest := ReferenceIdeal.Hand.wr_tlOps2.drop 61) (y := ReferenceIdeal.main_v435) (a := ReferenceIdeal.main_v428) (b := ReferenceIdeal.main_v434) rfl rfl (by decide +kernel) (by decide +kernel) (by decide +kernel)
  rw [eK, eR, h51 WK WR hP hLin hVal, h59 WK WR hP hLin hVal]
  try rfl
theorem h61 : StableHlo.after (KernelIdeal.Tail.ks2 (F := Ideal)) WK (Proc.devRef .tc KernelIdeal.main_c_153) = StableHlo.after (ReferenceIdeal.Hand.tlOps2 (F := Ideal)) WR (Proc.devRef .tc ReferenceIdeal.main_c_159) :=
  by
  have eK := final_nullary (KernelIdeal.Tail.writes_ks2 (F := Ideal)) WK 66 (rest := (KernelIdeal.Tail.ks2 (F := Ideal)).drop 67) (wrest := KernelIdeal.Tail.wr_ks2.drop 67) (y := KernelIdeal.main_c_153) rfl rfl (by decide +kernel)
  have eR := final_nullary (ReferenceIdeal.Hand.writes_tlOps2 (F := Ideal)) WR 61 (rest := (ReferenceIdeal.Hand.tlOps2 (F := Ideal)).drop 62) (wrest := ReferenceIdeal.Hand.wr_tlOps2.drop 62) (y := ReferenceIdeal.main_c_159) rfl rfl (by decide +kernel)
  rw [eK, eR]
  try rfl
theorem h62 : StableHlo.after (KernelIdeal.Tail.ks2 (F := Ideal)) WK (Proc.devRef .tc KernelIdeal.main_call41_v0) = StableHlo.after (ReferenceIdeal.Hand.tlOps2 (F := Ideal)) WR (Proc.devRef .tc ReferenceIdeal.main_call44_v0) :=
  by
  have eK := final_unary (KernelIdeal.Tail.writes_ks2 (F := Ideal)) WK 67 (rest := (KernelIdeal.Tail.ks2 (F := Ideal)).drop 68) (wrest := KernelIdeal.Tail.wr_ks2.drop 68) (y := KernelIdeal.main_call41_v0) (x := KernelIdeal.main_c_153) rfl rfl (by decide +kernel) (by decide +kernel)
  have eR := final_unary (ReferenceIdeal.Hand.writes_tlOps2 (F := Ideal)) WR 62 (rest := (ReferenceIdeal.Hand.tlOps2 (F := Ideal)).drop 63) (wrest := ReferenceIdeal.Hand.wr_tlOps2.drop 63) (y := ReferenceIdeal.main_call44_v0) (x := ReferenceIdeal.main_c_159) rfl rfl (by decide +kernel) (by decide +kernel)
  rw [eK, eR, h61 WK WR hP hLin hVal]
  try rfl
theorem h63 : StableHlo.after (KernelIdeal.Tail.ks2 (F := Ideal)) WK (Proc.devRef .tc KernelIdeal.main_call41_v1) = StableHlo.after (ReferenceIdeal.Hand.tlOps2 (F := Ideal)) WR (Proc.devRef .tc ReferenceIdeal.main_call44_v1) :=
  by
  have eK := final_unary (KernelIdeal.Tail.writes_ks2 (F := Ideal)) WK 68 (rest := (KernelIdeal.Tail.ks2 (F := Ideal)).drop 69) (wrest := KernelIdeal.Tail.wr_ks2.drop 69) (y := KernelIdeal.main_call41_v1) (x := KernelIdeal.main_call41_v0) rfl rfl (by decide +kernel) (by decide +kernel)
  have eR := final_unary (ReferenceIdeal.Hand.writes_tlOps2 (F := Ideal)) WR 63 (rest := (ReferenceIdeal.Hand.tlOps2 (F := Ideal)).drop 64) (wrest := ReferenceIdeal.Hand.wr_tlOps2.drop 64) (y := ReferenceIdeal.main_call44_v1) (x := ReferenceIdeal.main_call44_v0) rfl rfl (by decide +kernel) (by decide +kernel)
  rw [eK, eR, h62 WK WR hP hLin hVal]
  try rfl
theorem h64 : StableHlo.after (KernelIdeal.Tail.ks2 (F := Ideal)) WK (Proc.devRef .tc KernelIdeal.main_v384) = StableHlo.after (ReferenceIdeal.Hand.tlOps2 (F := Ideal)) WR (Proc.devRef .tc ReferenceIdeal.main_v436) :=
  by
  have eK := final_ternary (KernelIdeal.Tail.writes_ks2 (F := Ideal)) WK 69 (rest := (KernelIdeal.Tail.ks2 (F := Ideal)).drop 70) (wrest := KernelIdeal.Tail.wr_ks2.drop 70) (y := KernelIdeal.main_v384) (c := KernelIdeal.main_v342) (a := KernelIdeal.main_v383) (b := KernelIdeal.main_call41_v1) rfl rfl (by decide +kernel) (by decide +kernel) (by decide +kernel) (by decide +kernel)
  have eR := final_ternary (ReferenceIdeal.Hand.writes_tlOps2 (F := Ideal)) WR 64 (rest := (ReferenceIdeal.Hand.tlOps2 (F := Ideal)).drop 65) (wrest := ReferenceIdeal.Hand.wr_tlOps2.drop 65) (y := ReferenceIdeal.main_v436) (c := ReferenceIdeal.main_v381) (a := ReferenceIdeal.main_v435) (b := ReferenceIdeal.main_call44_v1) rfl rfl (by decide +kernel) (by decide +kernel) (by decide +kernel) (by decide +kernel)
  rw [eK, eR, hVal, h60 WK WR hP hLin hVal, h63 WK WR hP hLin hVal]
  try rfl
theorem h65 : StableHlo.after (KernelIdeal.Tail.ks2 (F := Ideal)) WK (Proc.devRef .tc KernelIdeal.main_call42_v0) = StableHlo.after (ReferenceIdeal.Hand.tlOps2 (F := Ideal)) WR (Proc.devRef .tc ReferenceIdeal.main_call45_v0) :=
  by
  have eK := final_nullary (KernelIdeal.Tail.writes_ks2 (F := Ideal)) WK 70 (rest := (KernelIdeal.Tail.ks2 (F := Ideal)).drop 71) (wrest := KernelIdeal.Tail.wr_ks2.drop 71) (y := KernelIdeal.main_call42_v0) rfl rfl (by decide +kernel)
  have eR := final_nullary (ReferenceIdeal.Hand.writes_tlOps2 (F := Ideal)) WR 65 (rest := (ReferenceIdeal.Hand.tlOps2 (F := Ideal)).drop 66) (wrest := ReferenceIdeal.Hand.wr_tlOps2.drop 66) (y := ReferenceIdeal.main_call45_v0) rfl rfl (by decide +kernel)
  rw [eK, eR]
  try rfl
theorem h66 : StableHlo.after (KernelIdeal.Tail.ks2 (F := Ideal)) WK (Proc.devRef .tc KernelIdeal.main_call42_v1_0) = StableHlo.after (ReferenceIdeal.Hand.tlOps2 (F := Ideal)) WR (Proc.devRef .tc ReferenceIdeal.main_call45_v1_0) :=
  by
  have eK := final_binary (KernelIdeal.Tail.writes_ks2 (F := Ideal)) WK 71 (rest := (KernelIdeal.Tail.ks2 (F := Ideal)).drop 72) (wrest := KernelIdeal.Tail.wr_ks2.drop 72) (y := KernelIdeal.main_call42_v1_0) (a := KernelIdeal.main_v340) (b := KernelIdeal.main_call42_v0) rfl rfl (by decide +kernel) (by decide +kernel) (by decide +kernel)
  have eR := final_binary (ReferenceIdeal.Hand.writes_tlOps2 (F := Ideal)) WR 66 (rest := (ReferenceIdeal.Hand.tlOps2 (F := Ideal)).drop 67) (wrest := ReferenceIdeal.Hand.wr_tlOps2.drop 67) (y := ReferenceIdeal.main_call45_v1_0) (a := ReferenceIdeal.main_v394) (b := ReferenceIdeal.main_call45_v0) rfl rfl (by decide +kernel) (by decide +kernel) (by decide +kernel)
  rw [eK, eR, hLin, h65 WK WR hP hLin hVal]
  try rfl
theorem h67 : StableHlo.after (KernelIdeal.Tail.ks2 (F := Ideal)) WK (Proc.devRef .tc KernelIdeal.main_v385) = StableHlo.after (ReferenceIdeal.Hand.tlOps2 (F := Ideal)) WR (Proc.devRef .tc ReferenceIdeal.main_v437) :=
  by
  have eK := final_binary (KernelIdeal.Tail.writes_ks2 (F := Ideal)) WK 72 (rest := (KernelIdeal.Tail.ks2 (F := Ideal)).drop 73) (wrest := KernelIdeal.Tail.wr_ks2.drop 73) (y := KernelIdeal.main_v385) (a := KernelIdeal.main_v340) (b := KernelIdeal.main_call42_v0) rfl rfl (by decide +kernel) (by decide +kernel) (by decide +kernel)
  have eR := final_binary (ReferenceIdeal.Hand.writes_tlOps2 (F := Ideal)) WR 67 (rest := (ReferenceIdeal.Hand.tlOps2 (F := Ideal)).drop 68) (wrest := ReferenceIdeal.Hand.wr_tlOps2.drop 68) (y := ReferenceIdeal.main_v437) (a := ReferenceIdeal.main_v394) (b := ReferenceIdeal.main_call45_v0) rfl rfl (by decide +kernel) (by decide +kernel) (by decide +kernel)
  rw [eK, eR, hLin, h65 WK WR hP hLin hVal]
  try rfl
theorem h68 : StableHlo.after (KernelIdeal.Tail.ks2 (F := Ideal)) WK (Proc.devRef .tc KernelIdeal.main_c_154) = StableHlo.after (ReferenceIdeal.Hand.tlOps2 (F := Ideal)) WR (Proc.devRef .tc ReferenceIdeal.main_c_160) :=
  by
  have eK := final_nullary (KernelIdeal.Tail.writes_ks2 (F := Ideal)) WK 73 (rest := (KernelIdeal.Tail.ks2 (F := Ideal)).drop 74) (wrest := KernelIdeal.Tail.wr_ks2.drop 74) (y := KernelIdeal.main_c_154) rfl rfl (by decide +kernel)
  have eR := final_nullary (ReferenceIdeal.Hand.writes_tlOps2 (F := Ideal)) WR 68 (rest := (ReferenceIdeal.Hand.tlOps2 (F := Ideal)).drop 69) (wrest := ReferenceIdeal.Hand.wr_tlOps2.drop 69) (y := ReferenceIdeal.main_c_160) rfl rfl (by decide +kernel)
  rw [eK, eR]
  try rfl
theorem h69 : StableHlo.after (KernelIdeal.Tail.ks2 (F := Ideal)) WK (Proc.devRef .tc KernelIdeal.main_v386) = StableHlo.after (ReferenceIdeal.Hand.tlOps2 (F := Ideal)) WR (Proc.devRef .tc ReferenceIdeal.main_v438) :=
  by
  have eK := final_unary (KernelIdeal.Tail.writes_ks2 (F := Ideal)) WK 74 (rest := (KernelIdeal.Tail.ks2 (F := Ideal)).drop 75) (wrest := KernelIdeal.Tail.wr_ks2.drop 75) (y := KernelIdeal.main_v386) (x := KernelIdeal.main_c_154) rfl rfl (by decide +kernel) (by decide +kernel)
  have eR := final_unary (ReferenceIdeal.Hand.writes_tlOps2 (F := Ideal)) WR 69 (rest := (ReferenceIdeal.Hand.tlOps2 (F := Ideal)).drop 70) (wrest := ReferenceIdeal.Hand.wr_tlOps2.drop 70) (y := ReferenceIdeal.main_v438) (x := ReferenceIdeal.main_c_160) rfl rfl (by decide +kernel) (by decide +kernel)
  rw [eK, eR, h68 WK WR hP hLin hVal]
  try rfl
theorem h70 : StableHlo.after (KernelIdeal.Tail.ks2 (F := Ideal)) WK (Proc.devRef .tc KernelIdeal.main_v387) = StableHlo.after (ReferenceIdeal.Hand.tlOps2 (F := Ideal)) WR (Proc.devRef .tc ReferenceIdeal.main_v439) :=
  by
  have eK := final_binary (KernelIdeal.Tail.writes_ks2 (F := Ideal)) WK 75 (rest := (KernelIdeal.Tail.ks2 (F := Ideal)).drop 76) (wrest := KernelIdeal.Tail.wr_ks2.drop 76) (y := KernelIdeal.main_v387) (a := KernelIdeal.main_v385) (b := KernelIdeal.main_v386) rfl rfl (by decide +kernel) (by decide +kernel) (by decide +kernel)
  have eR := final_binary (ReferenceIdeal.Hand.writes_tlOps2 (F := Ideal)) WR 70 (rest := (ReferenceIdeal.Hand.tlOps2 (F := Ideal)).drop 71) (wrest := ReferenceIdeal.Hand.wr_tlOps2.drop 71) (y := ReferenceIdeal.main_v439) (a := ReferenceIdeal.main_v437) (b := ReferenceIdeal.main_v438) rfl rfl (by decide +kernel) (by decide +kernel) (by decide +kernel)
  rw [eK, eR, h67 WK WR hP hLin hVal, h69 WK WR hP hLin hVal]
  try rfl
theorem h71 : StableHlo.after (KernelIdeal.Tail.ks2 (F := Ideal)) WK (Proc.devRef .tc KernelIdeal.main_c_155) = StableHlo.after (ReferenceIdeal.Hand.tlOps2 (F := Ideal)) WR (Proc.devRef .tc ReferenceIdeal.main_c_161) :=
  by
  have eK := final_nullary (KernelIdeal.Tail.writes_ks2 (F := Ideal)) WK 76 (rest := (KernelIdeal.Tail.ks2 (F := Ideal)).drop 77) (wrest := KernelIdeal.Tail.wr_ks2.drop 77) (y := KernelIdeal.main_c_155) rfl rfl (by decide +kernel)
  have eR := final_nullary (ReferenceIdeal.Hand.writes_tlOps2 (F := Ideal)) WR 71 (rest := (ReferenceIdeal.Hand.tlOps2 (F := Ideal)).drop 72) (wrest := ReferenceIdeal.Hand.wr_tlOps2.drop 72) (y := ReferenceIdeal.main_c_161) rfl rfl (by decide +kernel)
  rw [eK, eR]
  try rfl
theorem h72 : StableHlo.after (KernelIdeal.Tail.ks2 (F := Ideal)) WK (Proc.devRef .tc KernelIdeal.main_v388) = StableHlo.after (ReferenceIdeal.Hand.tlOps2 (F := Ideal)) WR (Proc.devRef .tc ReferenceIdeal.main_v440) :=
  by
  have eK := final_unary (KernelIdeal.Tail.writes_ks2 (F := Ideal)) WK 77 (rest := (KernelIdeal.Tail.ks2 (F := Ideal)).drop 78) (wrest := KernelIdeal.Tail.wr_ks2.drop 78) (y := KernelIdeal.main_v388) (x := KernelIdeal.main_c_155) rfl rfl (by decide +kernel) (by decide +kernel)
  have eR := final_unary (ReferenceIdeal.Hand.writes_tlOps2 (F := Ideal)) WR 72 (rest := (ReferenceIdeal.Hand.tlOps2 (F := Ideal)).drop 73) (wrest := ReferenceIdeal.Hand.wr_tlOps2.drop 73) (y := ReferenceIdeal.main_v440) (x := ReferenceIdeal.main_c_161) rfl rfl (by decide +kernel) (by decide +kernel)
  rw [eK, eR, h71 WK WR hP hLin hVal]
  try rfl
theorem h73 : StableHlo.after (KernelIdeal.Tail.ks2 (F := Ideal)) WK (Proc.devRef .tc KernelIdeal.main_v389) = StableHlo.after (ReferenceIdeal.Hand.tlOps2 (F := Ideal)) WR (Proc.devRef .tc ReferenceIdeal.main_v441) :=
  by
  have eK := final_binary (KernelIdeal.Tail.writes_ks2 (F := Ideal)) WK 78 (rest := (KernelIdeal.Tail.ks2 (F := Ideal)).drop 79) (wrest := KernelIdeal.Tail.wr_ks2.drop 79) (y := KernelIdeal.main_v389) (a := KernelIdeal.main_v385) (b := KernelIdeal.main_v388) rfl rfl (by decide +kernel) (by decide +kernel) (by decide +kernel)
  have eR := final_binary (ReferenceIdeal.Hand.writes_tlOps2 (F := Ideal)) WR 73 (rest := (ReferenceIdeal.Hand.tlOps2 (F := Ideal)).drop 74) (wrest := ReferenceIdeal.Hand.wr_tlOps2.drop 74) (y := ReferenceIdeal.main_v441) (a := ReferenceIdeal.main_v437) (b := ReferenceIdeal.main_v440) rfl rfl (by decide +kernel) (by decide +kernel) (by decide +kernel)
  rw [eK, eR, h67 WK WR hP hLin hVal, h72 WK WR hP hLin hVal]
  try rfl
theorem h74 : StableHlo.after (KernelIdeal.Tail.ks2 (F := Ideal)) WK (Proc.devRef .tc KernelIdeal.main_v390) = StableHlo.after (ReferenceIdeal.Hand.tlOps2 (F := Ideal)) WR (Proc.devRef .tc ReferenceIdeal.main_v442) :=
  by
  have eK := final_ternary (KernelIdeal.Tail.writes_ks2 (F := Ideal)) WK 79 (rest := (KernelIdeal.Tail.ks2 (F := Ideal)).drop 80) (wrest := KernelIdeal.Tail.wr_ks2.drop 80) (y := KernelIdeal.main_v390) (c := KernelIdeal.main_v387) (a := KernelIdeal.main_v389) (b := KernelIdeal.main_v385) rfl rfl (by decide +kernel) (by decide +kernel) (by decide +kernel) (by decide +kernel)
  have eR := final_ternary (ReferenceIdeal.Hand.writes_tlOps2 (F := Ideal)) WR 74 (rest := (ReferenceIdeal.Hand.tlOps2 (F := Ideal)).drop 75) (wrest := ReferenceIdeal.Hand.wr_tlOps2.drop 75) (y := ReferenceIdeal.main_v442) (c := ReferenceIdeal.main_v439) (a := ReferenceIdeal.main_v441) (b := ReferenceIdeal.main_v437) rfl rfl (by decide +kernel) (by decide +kernel) (by decide +kernel) (by decide +kernel)
  rw [eK, eR, h70 WK WR hP hLin hVal, h73 WK WR hP hLin hVal, h67 WK WR hP hLin hVal]
  try rfl
theorem h75 : StableHlo.after (KernelIdeal.Tail.ks2 (F := Ideal)) WK (Proc.devRef .tc KernelIdeal.main_v391) = StableHlo.after (ReferenceIdeal.Hand.tlOps2 (F := Ideal)) WR (Proc.devRef .tc ReferenceIdeal.main_v443) :=
  by
  have eK := final_unary (KernelIdeal.Tail.writes_ks2 (F := Ideal)) WK 80 (rest := (KernelIdeal.Tail.ks2 (F := Ideal)).drop 81) (wrest := KernelIdeal.Tail.wr_ks2.drop 81) (y := KernelIdeal.main_v391) (x := KernelIdeal.main_v390) rfl rfl (by decide +kernel) (by decide +kernel)
  have eR := final_unary (ReferenceIdeal.Hand.writes_tlOps2 (F := Ideal)) WR 75 (rest := (ReferenceIdeal.Hand.tlOps2 (F := Ideal)).drop 76) (wrest := ReferenceIdeal.Hand.wr_tlOps2.drop 76) (y := ReferenceIdeal.main_v443) (x := ReferenceIdeal.main_v442) rfl rfl (by decide +kernel) (by decide +kernel)
  rw [eK, eR, h74 WK WR hP hLin hVal]
  try rfl
theorem h76 : StableHlo.after (KernelIdeal.Tail.ks2 (F := Ideal)) WK (Proc.devRef .tc KernelIdeal.main_v392) = StableHlo.after (ReferenceIdeal.Hand.tlOps2 (F := Ideal)) WR (Proc.devRef .tc ReferenceIdeal.main_v444) :=
  by
  have eK := final_binary (KernelIdeal.Tail.writes_ks2 (F := Ideal)) WK 81 (rest := (KernelIdeal.Tail.ks2 (F := Ideal)).drop 82) (wrest := KernelIdeal.Tail.wr_ks2.drop 82) (y := KernelIdeal.main_v392) (a := KernelIdeal.main_v340) (b := KernelIdeal.main_v391) rfl rfl (by decide +kernel) (by decide +kernel) (by decide +kernel)
  have eR := final_binary (ReferenceIdeal.Hand.writes_tlOps2 (F := Ideal)) WR 76 (rest := (ReferenceIdeal.Hand.tlOps2 (F := Ideal)).drop 77) (wrest := ReferenceIdeal.Hand.wr_tlOps2.drop 77) (y := ReferenceIdeal.main_v444) (a := ReferenceIdeal.main_v394) (b := ReferenceIdeal.main_v443) rfl rfl (by decide +kernel) (by decide +kernel) (by decide +kernel)
  rw [eK, eR, hLin, h75 WK WR hP hLin hVal]
  try rfl
theorem h77 : StableHlo.after (KernelIdeal.Tail.ks2 (F := Ideal)) WK (Proc.devRef .tc KernelIdeal.main_c_156) = StableHlo.after (ReferenceIdeal.Hand.tlOps2 (F := Ideal)) WR (Proc.devRef .tc ReferenceIdeal.main_c_162) :=
  by
  have eK := final_nullary (KernelIdeal.Tail.writes_ks2 (F := Ideal)) WK 82 (rest := (KernelIdeal.Tail.ks2 (F := Ideal)).drop 83) (wrest := KernelIdeal.Tail.wr_ks2.drop 83) (y := KernelIdeal.main_c_156) rfl rfl (by decide +kernel)
  have eR := final_nullary (ReferenceIdeal.Hand.writes_tlOps2 (F := Ideal)) WR 77 (rest := (ReferenceIdeal.Hand.tlOps2 (F := Ideal)).drop 78) (wrest := ReferenceIdeal.Hand.wr_tlOps2.drop 78) (y := ReferenceIdeal.main_c_162) rfl rfl (by decide +kernel)
  rw [eK, eR]
  try rfl
theorem h78 : StableHlo.after (KernelIdeal.Tail.ks2 (F := Ideal)) WK (Proc.devRef .tc KernelIdeal.main_v393) = StableHlo.after (ReferenceIdeal.Hand.tlOps2 (F := Ideal)) WR (Proc.devRef .tc ReferenceIdeal.main_v445) :=
  by
  have eK := final_unary (KernelIdeal.Tail.writes_ks2 (F := Ideal)) WK 83 (rest := (KernelIdeal.Tail.ks2 (F := Ideal)).drop 84) (wrest := KernelIdeal.Tail.wr_ks2.drop 84) (y := KernelIdeal.main_v393) (x := KernelIdeal.main_c_156) rfl rfl (by decide +kernel) (by decide +kernel)
  have eR := final_unary (ReferenceIdeal.Hand.writes_tlOps2 (F := Ideal)) WR 78 (rest := (ReferenceIdeal.Hand.tlOps2 (F := Ideal)).drop 79) (wrest := ReferenceIdeal.Hand.wr_tlOps2.drop 79) (y := ReferenceIdeal.main_v445) (x := ReferenceIdeal.main_c_162) rfl rfl (by decide +kernel) (by decide +kernel)
  rw [eK, eR, h77 WK WR hP hLin hVal]
  try rfl
theorem h79 : StableHlo.after (KernelIdeal.Tail.ks2 (F := Ideal)) WK (Proc.devRef .tc KernelIdeal.main_v394) = StableHlo.after (ReferenceIdeal.Hand.tlOps2 (F := Ideal)) WR (Proc.devRef .tc ReferenceIdeal.main_v446) :=
  by
  have eK := final_unary (KernelIdeal.Tail.writes_ks2 (F := Ideal)) WK 84 (rest := (KernelIdeal.Tail.ks2 (F := Ideal)).drop 85) (wrest := KernelIdeal.Tail.wr_ks2.drop 85) (y := KernelIdeal.main_v394) (x := KernelIdeal.main_v392) rfl rfl (by decide +kernel) (by decide +kernel)
  have eR := final_unary (ReferenceIdeal.Hand.writes_tlOps2 (F := Ideal)) WR 79 (rest := (ReferenceIdeal.Hand.tlOps2 (F := Ideal)).drop 80) (wrest := ReferenceIdeal.Hand.wr_tlOps2.drop 80) (y := ReferenceIdeal.main_v446) (x := ReferenceIdeal.main_v444) rfl rfl (by decide +kernel) (by decide +kernel)
  rw [eK, eR, h76 WK WR hP hLin hVal]
  try rfl
theorem h80 : StableHlo.after (KernelIdeal.Tail.ks2 (F := Ideal)) WK (Proc.devRef .tc KernelIdeal.main_v395) = StableHlo.after (ReferenceIdeal.Hand.tlOps2 (F := Ideal)) WR (Proc.devRef .tc ReferenceIdeal.main_v447) :=
  by
  have eK := final_unary (KernelIdeal.Tail.writes_ks2 (F := Ideal)) WK 85 (rest := (KernelIdeal.Tail.ks2 (F := Ideal)).drop 86) (wrest := KernelIdeal.Tail.wr_ks2.drop 86) (y := KernelIdeal.main_v395) (x := KernelIdeal.main_v392) rfl rfl (by decide +kernel) (by decide +kernel)
  have eR := final_unary (ReferenceIdeal.Hand.writes_tlOps2 (F := Ideal)) WR 80 (rest := (ReferenceIdeal.Hand.tlOps2 (F := Ideal)).drop 81) (wrest := ReferenceIdeal.Hand.wr_tlOps2.drop 81) (y := ReferenceIdeal.main_v447) (x := ReferenceIdeal.main_v444) rfl rfl (by decide +kernel) (by decide +kernel)
  rw [eK, eR, h76 WK WR hP hLin hVal]
  try rfl
theorem h81 : StableHlo.after (KernelIdeal.Tail.ks2 (F := Ideal)) WK (Proc.devRef .tc KernelIdeal.main_v396) = StableHlo.after (ReferenceIdeal.Hand.tlOps2 (F := Ideal)) WR (Proc.devRef .tc ReferenceIdeal.main_v448) :=
  by
  have eK := final_binary (KernelIdeal.Tail.writes_ks2 (F := Ideal)) WK 86 (rest := (KernelIdeal.Tail.ks2 (F := Ideal)).drop 87) (wrest := KernelIdeal.Tail.wr_ks2.drop 87) (y := KernelIdeal.main_v396) (a := KernelIdeal.main_v394) (b := KernelIdeal.main_v395) rfl rfl (by decide +kernel) (by decide +kernel) (by decide +kernel)
  have eR := final_binary (ReferenceIdeal.Hand.writes_tlOps2 (F := Ideal)) WR 81 (rest := (ReferenceIdeal.Hand.tlOps2 (F := Ideal)).drop 82) (wrest := ReferenceIdeal.Hand.wr_tlOps2.drop 82) (y := ReferenceIdeal.main_v448) (a := ReferenceIdeal.main_v446) (b := ReferenceIdeal.main_v447) rfl rfl (by decide +kernel) (by decide +kernel) (by decide +kernel)
  rw [eK, eR, h79 WK WR hP hLin hVal, h80 WK WR hP hLin hVal]
  try rfl
theorem h82 : StableHlo.after (KernelIdeal.Tail.ks2 (F := Ideal)) WK (Proc.devRef .tc KernelIdeal.main_v397) = StableHlo.after (ReferenceIdeal.Hand.tlOps2 (F := Ideal)) WR (Proc.devRef .tc ReferenceIdeal.main_v449) :=
  by
  have eK := final_binary (KernelIdeal.Tail.writes_ks2 (F := Ideal)) WK 87 (rest := (KernelIdeal.Tail.ks2 (F := Ideal)).drop 88) (wrest := KernelIdeal.Tail.wr_ks2.drop 88) (y := KernelIdeal.main_v397) (a := KernelIdeal.main_v393) (b := KernelIdeal.main_v396) rfl rfl (by decide +kernel) (by decide +kernel) (by decide +kernel)
  have eR := final_binary (ReferenceIdeal.Hand.writes_tlOps2 (F := Ideal)) WR 82 (rest := (ReferenceIdeal.Hand.tlOps2 (F := Ideal)).drop 83) (wrest := ReferenceIdeal.Hand.wr_tlOps2.drop 83) (y := ReferenceIdeal.main_v449) (a := ReferenceIdeal.main_v445) (b := ReferenceIdeal.main_v448) rfl rfl (by decide +kernel) (by decide +kernel) (by decide +kernel)
  rw [eK, eR, h78 WK WR hP hLin hVal, h81 WK WR hP hLin hVal]
  try rfl
theorem h83 : StableHlo.after (KernelIdeal.Tail.ks2 (F := Ideal)) WK (Proc.devRef .tc KernelIdeal.main_c_157) = StableHlo.after (ReferenceIdeal.Hand.tlOps2 (F := Ideal)) WR (Proc.devRef .tc ReferenceIdeal.main_c_163) :=
  by
  have eK := final_nullary (KernelIdeal.Tail.writes_ks2 (F := Ideal)) WK 88 (rest := (KernelIdeal.Tail.ks2 (F := Ideal)).drop 89) (wrest := KernelIdeal.Tail.wr_ks2.drop 89) (y := KernelIdeal.main_c_157) rfl rfl (by decide +kernel)
  have eR := final_nullary (ReferenceIdeal.Hand.writes_tlOps2 (F := Ideal)) WR 83 (rest := (ReferenceIdeal.Hand.tlOps2 (F := Ideal)).drop 84) (wrest := ReferenceIdeal.Hand.wr_tlOps2.drop 84) (y := ReferenceIdeal.main_c_163) rfl rfl (by decide +kernel)
  rw [eK, eR]
  try rfl
theorem h84 : StableHlo.after (KernelIdeal.Tail.ks2 (F := Ideal)) WK (Proc.devRef .tc KernelIdeal.main_call43_v0) = StableHlo.after (ReferenceIdeal.Hand.tlOps2 (F := Ideal)) WR (Proc.devRef .tc ReferenceIdeal.main_call46_v0) :=
  by
  have eK := final_unary (KernelIdeal.Tail.writes_ks2 (F := Ideal)) WK 89 (rest := (KernelIdeal.Tail.ks2 (F := Ideal)).drop 90) (wrest := KernelIdeal.Tail.wr_ks2.drop 90) (y := KernelIdeal.main_call43_v0) (x := KernelIdeal.main_c_157) rfl rfl (by decide +kernel) (by decide +kernel)
  have eR := final_unary (ReferenceIdeal.Hand.writes_tlOps2 (F := Ideal)) WR 84 (rest := (ReferenceIdeal.Hand.tlOps2 (F := Ideal)).drop 85) (wrest := ReferenceIdeal.Hand.wr_tlOps2.drop 85) (y := ReferenceIdeal.main_call46_v0) (x := ReferenceIdeal.main_c_163) rfl rfl (by decide +kernel) (by decide +kernel)
  rw [eK, eR, h83 WK WR hP hLin hVal]
  try rfl
theorem h85 : StableHlo.after (KernelIdeal.Tail.ks2 (F := Ideal)) WK (Proc.devRef .tc KernelIdeal.main_call43_v1) = StableHlo.after (ReferenceIdeal.Hand.tlOps2 (F := Ideal)) WR (Proc.devRef .tc ReferenceIdeal.main_call46_v1) :=
  by
  have eK := final_unary (KernelIdeal.Tail.writes_ks2 (F := Ideal)) WK 90 (rest := (KernelIdeal.Tail.ks2 (F := Ideal)).drop 91) (wrest := KernelIdeal.Tail.wr_ks2.drop 91) (y := KernelIdeal.main_call43_v1) (x := KernelIdeal.main_call43_v0) rfl rfl (by decide +kernel) (by decide +kernel)
  have eR := final_unary (ReferenceIdeal.Hand.writes_tlOps2 (F := Ideal)) WR 85 (rest := (ReferenceIdeal.Hand.tlOps2 (F := Ideal)).drop 86) (wrest := ReferenceIdeal.Hand.wr_tlOps2.drop 86) (y := ReferenceIdeal.main_call46_v1) (x := ReferenceIdeal.main_call46_v0) rfl rfl (by decide +kernel) (by decide +kernel)
  rw [eK, eR, h84 WK WR hP hLin hVal]
  try rfl
theorem h86 : StableHlo.after (KernelIdeal.Tail.ks2 (F := Ideal)) WK (Proc.devRef .tc KernelIdeal.main_v398) = StableHlo.after (ReferenceIdeal.Hand.tlOps2 (F := Ideal)) WR (Proc.devRef .tc ReferenceIdeal.main_v450) :=
  by
  have eK := final_ternary (KernelIdeal.Tail.writes_ks2 (F := Ideal)) WK 91 (rest := (KernelIdeal.Tail.ks2 (F := Ideal)).drop 92) (wrest := KernelIdeal.Tail.wr_ks2.drop 92) (y := KernelIdeal.main_v398) (c := KernelIdeal.main_v397) (a := KernelIdeal.main_v343) (b := KernelIdeal.main_call43_v1) rfl rfl (by decide +kernel) (by decide +kernel) (by decide +kernel) (by decide +kernel)
  have eR := final_ternary (ReferenceIdeal.Hand.writes_tlOps2 (F := Ideal)) WR 86 (rest := (ReferenceIdeal.Hand.tlOps2 (F := Ideal)).drop 87) (wrest := ReferenceIdeal.Hand.wr_tlOps2.drop 87) (y := ReferenceIdeal.main_v450) (c := ReferenceIdeal.main_v449) (a := ReferenceIdeal.main_v395) (b := ReferenceIdeal.main_call46_v1) rfl rfl (by decide +kernel) (by decide +kernel) (by decide +kernel) (by decide +kernel)
  rw [eK, eR, h82 WK WR hP hLin hVal, h0 WK WR hP hLin hVal, h85 WK WR hP hLin hVal]
  try rfl
theorem h87 : StableHlo.after (KernelIdeal.Tail.ks2 (F := Ideal)) WK (Proc.devRef .tc KernelIdeal.main_call44_c) = StableHlo.after (ReferenceIdeal.Hand.tlOps2 (F := Ideal)) WR (Proc.devRef .tc ReferenceIdeal.main_call47_c) :=
  by
  have eK := final_nullary (KernelIdeal.Tail.writes_ks2 (F := Ideal)) WK 92 (rest := (KernelIdeal.Tail.ks2 (F := Ideal)).drop 93) (wrest := KernelIdeal.Tail.wr_ks2.drop 93) (y := KernelIdeal.main_call44_c) rfl rfl (by decide +kernel)
  have eR := final_nullary (ReferenceIdeal.Hand.writes_tlOps2 (F := Ideal)) WR 87 (rest := (ReferenceIdeal.Hand.tlOps2 (F := Ideal)).drop 88) (wrest := ReferenceIdeal.Hand.wr_tlOps2.drop 88) (y := ReferenceIdeal.main_call47_c) rfl rfl (by decide +kernel)
  rw [eK, eR]
  try rfl
theorem h88 : StableHlo.after (KernelIdeal.Tail.ks2 (F := Ideal)) WK (Proc.devRef .tc KernelIdeal.main_call44_v0) = StableHlo.after (ReferenceIdeal.Hand.tlOps2 (F := Ideal)) WR (Proc.devRef .tc ReferenceIdeal.main_call47_v0) :=
  by
  have eK := final_unary (KernelIdeal.Tail.writes_ks2 (F := Ideal)) WK 93 (rest := (KernelIdeal.Tail.ks2 (F := Ideal)).drop 94) (wrest := KernelIdeal.Tail.wr_ks2.drop 94) (y := KernelIdeal.main_call44_v0) (x := KernelIdeal.main_call44_c) rfl rfl (by decide +kernel) (by decide +kernel)
  have eR := final_unary (ReferenceIdeal.Hand.writes_tlOps2 (F := Ideal)) WR 88 (rest := (ReferenceIdeal.Hand.tlOps2 (F := Ideal)).drop 89) (wrest := ReferenceIdeal.Hand.wr_tlOps2.drop 89) (y := ReferenceIdeal.main_call47_v0) (x := ReferenceIdeal.main_call47_c) rfl rfl (by decide +kernel) (by decide +kernel)
  rw [eK, eR, h87 WK WR hP hLin hVal]
  try rfl
theorem h89 : StableHlo.after (KernelIdeal.Tail.ks2 (F := Ideal)) WK (Proc.devRef .tc KernelIdeal.main_v399) = StableHlo.after (ReferenceIdeal.Hand.tlOps2 (F := Ideal)) WR (Proc.devRef .tc ReferenceIdeal.main_v451) :=
  by
  have eK := final_binary (KernelIdeal.Tail.writes_ks2 (F := Ideal)) WK 94 (rest := (KernelIdeal.Tail.ks2 (F := Ideal)).drop 95) (wrest := KernelIdeal.Tail.wr_ks2.drop 95) (y := KernelIdeal.main_v399) (a := KernelIdeal.main_v398) (b := KernelIdeal.main_call44_v0) rfl rfl (by decide +kernel) (by decide +kernel) (by decide +kernel)
  have eR := final_binary (ReferenceIdeal.Hand.writes_tlOps2 (F := Ideal)) WR 89 (rest := (ReferenceIdeal.Hand.tlOps2 (F := Ideal)).drop 90) (wrest := ReferenceIdeal.Hand.wr_tlOps2.drop 90) (y := ReferenceIdeal.main_v451) (a := ReferenceIdeal.main_v450) (b := ReferenceIdeal.main_call47_v0) rfl rfl (by decide +kernel) (by decide +kernel) (by decide +kernel)
  rw [eK, eR, h86 WK WR hP hLin hVal, h88 WK WR hP hLin hVal]
  try rfl
theorem h90 : StableHlo.after (KernelIdeal.Tail.ks2 (F := Ideal)) WK (Proc.devRef .tc KernelIdeal.main_c_158) = StableHlo.after (ReferenceIdeal.Hand.tlOps2 (F := Ideal)) WR (Proc.devRef .tc ReferenceIdeal.main_c_164) :=
  by
  have eK := final_nullary (KernelIdeal.Tail.writes_ks2 (F := Ideal)) WK 95 (rest := (KernelIdeal.Tail.ks2 (F := Ideal)).drop 96) (wrest := KernelIdeal.Tail.wr_ks2.drop 96) (y := KernelIdeal.main_c_158) rfl rfl (by decide +kernel)
  have eR := final_nullary (ReferenceIdeal.Hand.writes_tlOps2 (F := Ideal)) WR 90 (rest := (ReferenceIdeal.Hand.tlOps2 (F := Ideal)).drop 91) (wrest := ReferenceIdeal.Hand.wr_tlOps2.drop 91) (y := ReferenceIdeal.main_c_164) rfl rfl (by decide +kernel)
  rw [eK, eR]
  try rfl
theorem h91 : StableHlo.after (KernelIdeal.Tail.ks2 (F := Ideal)) WK (Proc.devRef .tc KernelIdeal.main_v400) = StableHlo.after (ReferenceIdeal.Hand.tlOps2 (F := Ideal)) WR (Proc.devRef .tc ReferenceIdeal.main_v452) :=
  by
  have eK := final_unary (KernelIdeal.Tail.writes_ks2 (F := Ideal)) WK 96 (rest := (KernelIdeal.Tail.ks2 (F := Ideal)).drop 97) (wrest := KernelIdeal.Tail.wr_ks2.drop 97) (y := KernelIdeal.main_v400) (x := KernelIdeal.main_c_158) rfl rfl (by decide +kernel) (by decide +kernel)
  have eR := final_unary (ReferenceIdeal.Hand.writes_tlOps2 (F := Ideal)) WR 91 (rest := (ReferenceIdeal.Hand.tlOps2 (F := Ideal)).drop 92) (wrest := ReferenceIdeal.Hand.wr_tlOps2.drop 92) (y := ReferenceIdeal.main_v452) (x := ReferenceIdeal.main_c_164) rfl rfl (by decide +kernel) (by decide +kernel)
  rw [eK, eR, h90 WK WR hP hLin hVal]
  try rfl
theorem h92 : StableHlo.after (KernelIdeal.Tail.ks2 (F := Ideal)) WK (Proc.devRef .tc KernelIdeal.main_v401) = StableHlo.after (ReferenceIdeal.Hand.tlOps2 (F := Ideal)) WR (Proc.devRef .tc ReferenceIdeal.main_v453) :=
  by
  have eK := final_binary (KernelIdeal.Tail.writes_ks2 (F := Ideal)) WK 97 (rest := (KernelIdeal.Tail.ks2 (F := Ideal)).drop 98) (wrest := KernelIdeal.Tail.wr_ks2.drop 98) (y := KernelIdeal.main_v401) (a := KernelIdeal.main_v343) (b := KernelIdeal.main_v399) rfl rfl (by decide +kernel) (by decide +kernel) (by decide +kernel)
  have eR := final_binary (ReferenceIdeal.Hand.writes_tlOps2 (F := Ideal)) WR 92 (rest := (ReferenceIdeal.Hand.tlOps2 (F := Ideal)).drop 93) (wrest := ReferenceIdeal.Hand.wr_tlOps2.drop 93) (y := ReferenceIdeal.main_v453) (a := ReferenceIdeal.main_v395) (b := ReferenceIdeal.main_v451) rfl rfl (by decide +kernel) (by decide +kernel) (by decide +kernel)
  rw [eK, eR, h0 WK WR hP hLin hVal, h89 WK WR hP hLin hVal]
  try rfl
theorem h93 : StableHlo.after (KernelIdeal.Tail.ks2 (F := Ideal)) WK (Proc.devRef .tc KernelIdeal.main_c_159) = StableHlo.after (ReferenceIdeal.Hand.tlOps2 (F := Ideal)) WR (Proc.devRef .tc ReferenceIdeal.main_c_165) :=
  by
  have eK := final_nullary (KernelIdeal.Tail.writes_ks2 (F := Ideal)) WK 98 (rest := (KernelIdeal.Tail.ks2 (F := Ideal)).drop 99) (wrest := KernelIdeal.Tail.wr_ks2.drop 99) (y := KernelIdeal.main_c_159) rfl rfl (by decide +kernel)
  have eR := final_nullary (ReferenceIdeal.Hand.writes_tlOps2 (F := Ideal)) WR 93 (rest := (ReferenceIdeal.Hand.tlOps2 (F := Ideal)).drop 94) (wrest := ReferenceIdeal.Hand.wr_tlOps2.drop 94) (y := ReferenceIdeal.main_c_165) rfl rfl (by decide +kernel)
  rw [eK, eR]
  try rfl
theorem h94 : StableHlo.after (KernelIdeal.Tail.ks2 (F := Ideal)) WK (Proc.devRef .tc KernelIdeal.main_v402) = StableHlo.after (ReferenceIdeal.Hand.tlOps2 (F := Ideal)) WR (Proc.devRef .tc ReferenceIdeal.main_v454) :=
  by
  have eK := final_unary (KernelIdeal.Tail.writes_ks2 (F := Ideal)) WK 99 (rest := (KernelIdeal.Tail.ks2 (F := Ideal)).drop 100) (wrest := KernelIdeal.Tail.wr_ks2.drop 100) (y := KernelIdeal.main_v402) (x := KernelIdeal.main_c_159) rfl rfl (by decide +kernel) (by decide +kernel)
  have eR := final_unary (ReferenceIdeal.Hand.writes_tlOps2 (F := Ideal)) WR 94 (rest := (ReferenceIdeal.Hand.tlOps2 (F := Ideal)).drop 95) (wrest := ReferenceIdeal.Hand.wr_tlOps2.drop 95) (y := ReferenceIdeal.main_v454) (x := ReferenceIdeal.main_c_165) rfl rfl (by decide +kernel) (by decide +kernel)
  rw [eK, eR, h93 WK WR hP hLin hVal]
  try rfl
theorem h95 : StableHlo.after (KernelIdeal.Tail.ks2 (F := Ideal)) WK (Proc.devRef .tc KernelIdeal.main_v403) = StableHlo.after (ReferenceIdeal.Hand.tlOps2 (F := Ideal)) WR (Proc.devRef .tc ReferenceIdeal.main_v455) :=
  by
  have eK := final_binary (KernelIdeal.Tail.writes_ks2 (F := Ideal)) WK 100 (rest := (KernelIdeal.Tail.ks2 (F := Ideal)).drop 101) (wrest := KernelIdeal.Tail.wr_ks2.drop 101) (y := KernelIdeal.main_v403) (a := KernelIdeal.main_v385) (b := KernelIdeal.main_v402) rfl rfl (by decide +kernel) (by decide +kernel) (by decide +kernel)
  have eR := final_binary (ReferenceIdeal.Hand.writes_tlOps2 (F := Ideal)) WR 95 (rest := (ReferenceIdeal.Hand.tlOps2 (F := Ideal)).drop 96) (wrest := ReferenceIdeal.Hand.wr_tlOps2.drop 96) (y := ReferenceIdeal.main_v455) (a := ReferenceIdeal.main_v437) (b := ReferenceIdeal.main_v454) rfl rfl (by decide +kernel) (by decide +kernel) (by decide +kernel)
  rw [eK, eR, h67 WK WR hP hLin hVal, h94 WK WR hP hLin hVal]
  try rfl
theorem h96 : StableHlo.after (KernelIdeal.Tail.ks2 (F := Ideal)) WK (Proc.devRef .tc KernelIdeal.main_c_160) = StableHlo.after (ReferenceIdeal.Hand.tlOps2 (F := Ideal)) WR (Proc.devRef .tc ReferenceIdeal.main_c_166) :=
  by
  have eK := final_nullary (KernelIdeal.Tail.writes_ks2 (F := Ideal)) WK 101 (rest := (KernelIdeal.Tail.ks2 (F := Ideal)).drop 102) (wrest := KernelIdeal.Tail.wr_ks2.drop 102) (y := KernelIdeal.main_c_160) rfl rfl (by decide +kernel)
  have eR := final_nullary (ReferenceIdeal.Hand.writes_tlOps2 (F := Ideal)) WR 96 (rest := (ReferenceIdeal.Hand.tlOps2 (F := Ideal)).drop 97) (wrest := ReferenceIdeal.Hand.wr_tlOps2.drop 97) (y := ReferenceIdeal.main_c_166) rfl rfl (by decide +kernel)
  rw [eK, eR]
  try rfl
theorem h97 : StableHlo.after (KernelIdeal.Tail.ks2 (F := Ideal)) WK (Proc.devRef .tc KernelIdeal.main_v404) = StableHlo.after (ReferenceIdeal.Hand.tlOps2 (F := Ideal)) WR (Proc.devRef .tc ReferenceIdeal.main_v456) :=
  by
  have eK := final_unary (KernelIdeal.Tail.writes_ks2 (F := Ideal)) WK 102 (rest := (KernelIdeal.Tail.ks2 (F := Ideal)).drop 103) (wrest := KernelIdeal.Tail.wr_ks2.drop 103) (y := KernelIdeal.main_v404) (x := KernelIdeal.main_c_160) rfl rfl (by decide +kernel) (by decide +kernel)
  have eR := final_unary (ReferenceIdeal.Hand.writes_tlOps2 (F := Ideal)) WR 97 (rest := (ReferenceIdeal.Hand.tlOps2 (F := Ideal)).drop 98) (wrest := ReferenceIdeal.Hand.wr_tlOps2.drop 98) (y := ReferenceIdeal.main_v456) (x := ReferenceIdeal.main_c_166) rfl rfl (by decide +kernel) (by decide +kernel)
  rw [eK, eR, h96 WK WR hP hLin hVal]
  try rfl
theorem h98 : StableHlo.after (KernelIdeal.Tail.ks2 (F := Ideal)) WK (Proc.devRef .tc KernelIdeal.main_v405) = StableHlo.after (ReferenceIdeal.Hand.tlOps2 (F := Ideal)) WR (Proc.devRef .tc ReferenceIdeal.main_v457) :=
  by
  have eK := final_binary (KernelIdeal.Tail.writes_ks2 (F := Ideal)) WK 103 (rest := (KernelIdeal.Tail.ks2 (F := Ideal)).drop 104) (wrest := KernelIdeal.Tail.wr_ks2.drop 104) (y := KernelIdeal.main_v405) (a := KernelIdeal.main_v385) (b := KernelIdeal.main_v404) rfl rfl (by decide +kernel) (by decide +kernel) (by decide +kernel)
  have eR := final_binary (ReferenceIdeal.Hand.writes_tlOps2 (F := Ideal)) WR 98 (rest := (ReferenceIdeal.Hand.tlOps2 (F := Ideal)).drop 99) (wrest := ReferenceIdeal.Hand.wr_tlOps2.drop 99) (y := ReferenceIdeal.main_v457) (a := ReferenceIdeal.main_v437) (b := ReferenceIdeal.main_v456) rfl rfl (by decide +kernel) (by decide +kernel) (by decide +kernel)
  rw [eK, eR, h67 WK WR hP hLin hVal, h97 WK WR hP hLin hVal]
  try rfl
theorem h99 : StableHlo.after (KernelIdeal.Tail.ks2 (F := Ideal)) WK (Proc.devRef .tc KernelIdeal.main_v406) = StableHlo.after (ReferenceIdeal.Hand.tlOps2 (F := Ideal)) WR (Proc.devRef .tc ReferenceIdeal.main_v458) :=
  by
  have eK := final_ternary (KernelIdeal.Tail.writes_ks2 (F := Ideal)) WK 104 (rest := (KernelIdeal.Tail.ks2 (F := Ideal)).drop 105) (wrest := KernelIdeal.Tail.wr_ks2.drop 105) (y := KernelIdeal.main_v406) (c := KernelIdeal.main_v403) (a := KernelIdeal.main_v405) (b := KernelIdeal.main_v385) rfl rfl (by decide +kernel) (by decide +kernel) (by decide +kernel) (by decide +kernel)
  have eR := final_ternary (ReferenceIdeal.Hand.writes_tlOps2 (F := Ideal)) WR 99 (rest := (ReferenceIdeal.Hand.tlOps2 (F := Ideal)).drop 100) (wrest := ReferenceIdeal.Hand.wr_tlOps2.drop 100) (y := ReferenceIdeal.main_v458) (c := ReferenceIdeal.main_v455) (a := ReferenceIdeal.main_v457) (b := ReferenceIdeal.main_v437) rfl rfl (by decide +kernel) (by decide +kernel) (by decide +kernel) (by decide +kernel)
  rw [eK, eR, h95 WK WR hP hLin hVal, h98 WK WR hP hLin hVal, h67 WK WR hP hLin hVal]
  try rfl
theorem h100 : StableHlo.after (KernelIdeal.Tail.ks2 (F := Ideal)) WK (Proc.devRef .tc KernelIdeal.main_v407) = StableHlo.after (ReferenceIdeal.Hand.tlOps2 (F := Ideal)) WR (Proc.devRef .tc ReferenceIdeal.main_v459) :=
  by
  have eK := final_unary (KernelIdeal.Tail.writes_ks2 (F := Ideal)) WK 105 (rest := (KernelIdeal.Tail.ks2 (F := Ideal)).drop 106) (wrest := KernelIdeal.Tail.wr_ks2.drop 106) (y := KernelIdeal.main_v407) (x := KernelIdeal.main_v406) rfl rfl (by decide +kernel) (by decide +kernel)
  have eR := final_unary (ReferenceIdeal.Hand.writes_tlOps2 (F := Ideal)) WR 100 (rest := (ReferenceIdeal.Hand.tlOps2 (F := Ideal)).drop 101) (wrest := ReferenceIdeal.Hand.wr_tlOps2.drop 101) (y := ReferenceIdeal.main_v459) (x := ReferenceIdeal.main_v458) rfl rfl (by decide +kernel) (by decide +kernel)
  rw [eK, eR, h99 WK WR hP hLin hVal]
  try rfl
theorem h101 : StableHlo.after (KernelIdeal.Tail.ks2 (F := Ideal)) WK (Proc.devRef .tc KernelIdeal.main_v408) = StableHlo.after (ReferenceIdeal.Hand.tlOps2 (F := Ideal)) WR (Proc.devRef .tc ReferenceIdeal.main_v460) :=
  by
  have eK := final_ternary (KernelIdeal.Tail.writes_ks2 (F := Ideal)) WK 106 (rest := (KernelIdeal.Tail.ks2 (F := Ideal)).drop 107) (wrest := KernelIdeal.Tail.wr_ks2.drop 107) (y := KernelIdeal.main_v408) (c := KernelIdeal.main_v400) (a := KernelIdeal.main_v407) (b := KernelIdeal.main_v401) rfl rfl (by decide +kernel) (by decide +kernel) (by decide +kernel) (by decide +kernel)
  have eR := final_ternary (ReferenceIdeal.Hand.writes_tlOps2 (F := Ideal)) WR 101 (rest := (ReferenceIdeal.Hand.tlOps2 (F := Ideal)).drop 102) (wrest := ReferenceIdeal.Hand.wr_tlOps2.drop 102) (y := ReferenceIdeal.main_v460) (c := ReferenceIdeal.main_v452) (a := ReferenceIdeal.main_v459) (b := ReferenceIdeal.main_v453) rfl rfl (by decide +kernel) (by decide +kernel) (by decide +kernel) (by decide +kernel)
  rw [eK, eR, h91 WK WR hP hLin hVal, h100 WK WR hP hLin hVal, h92 WK WR hP hLin hVal]
  try rfl
theorem h102 : StableHlo.after (KernelIdeal.Tail.ks2 (F := Ideal)) WK (Proc.devRef .tc KernelIdeal.main_c_161) = StableHlo.after (ReferenceIdeal.Hand.tlOps2 (F := Ideal)) WR (Proc.devRef .tc ReferenceIdeal.main_c_167) :=
  by
  have eK := final_nullary (KernelIdeal.Tail.writes_ks2 (F := Ideal)) WK 107 (rest := (KernelIdeal.Tail.ks2 (F := Ideal)).drop 108) (wrest := KernelIdeal.Tail.wr_ks2.drop 108) (y := KernelIdeal.main_c_161) rfl rfl (by decide +kernel)
  have eR := final_nullary (ReferenceIdeal.Hand.writes_tlOps2 (F := Ideal)) WR 102 (rest := (ReferenceIdeal.Hand.tlOps2 (F := Ideal)).drop 103) (wrest := ReferenceIdeal.Hand.wr_tlOps2.drop 103) (y := ReferenceIdeal.main_c_167) rfl rfl (by decide +kernel)
  rw [eK, eR]
  try rfl
theorem h103 : StableHlo.after (KernelIdeal.Tail.ks2 (F := Ideal)) WK (Proc.devRef .tc KernelIdeal.main_v409) = StableHlo.after (ReferenceIdeal.Hand.tlOps2 (F := Ideal)) WR (Proc.devRef .tc ReferenceIdeal.main_v461) :=
  by
  have eK := final_unary (KernelIdeal.Tail.writes_ks2 (F := Ideal)) WK 108 (rest := (KernelIdeal.Tail.ks2 (F := Ideal)).drop 109) (wrest := KernelIdeal.Tail.wr_ks2.drop 109) (y := KernelIdeal.main_v409) (x := KernelIdeal.main_c_161) rfl rfl (by decide +kernel) (by decide +kernel)
  have eR := final_unary (ReferenceIdeal.Hand.writes_tlOps2 (F := Ideal)) WR 103 (rest := (ReferenceIdeal.Hand.tlOps2 (F := Ideal)).drop 104) (wrest := ReferenceIdeal.Hand.wr_tlOps2.drop 104) (y := ReferenceIdeal.main_v461) (x := ReferenceIdeal.main_c_167) rfl rfl (by decide +kernel) (by decide +kernel)
  rw [eK, eR, h102 WK WR hP hLin hVal]
  try rfl
theorem h104 : StableHlo.after (KernelIdeal.Tail.ks2 (F := Ideal)) WK (Proc.devRef .tc KernelIdeal.main_v410) = StableHlo.after (ReferenceIdeal.Hand.tlOps2 (F := Ideal)) WR (Proc.devRef .tc ReferenceIdeal.main_v462) :=
  by
  have eK := final_binary (KernelIdeal.Tail.writes_ks2 (F := Ideal)) WK 109 (rest := (KernelIdeal.Tail.ks2 (F := Ideal)).drop 110) (wrest := KernelIdeal.Tail.wr_ks2.drop 110) (y := KernelIdeal.main_v410) (a := KernelIdeal.main_v384) (b := KernelIdeal.main_v409) rfl rfl (by decide +kernel) (by decide +kernel) (by decide +kernel)
  have eR := final_binary (ReferenceIdeal.Hand.writes_tlOps2 (F := Ideal)) WR 104 (rest := (ReferenceIdeal.Hand.tlOps2 (F := Ideal)).drop 105) (wrest := ReferenceIdeal.Hand.wr_tlOps2.drop 105) (y := ReferenceIdeal.main_v462) (a := ReferenceIdeal.main_v436) (b := ReferenceIdeal.main_v461) rfl rfl (by decide +kernel) (by decide +kernel) (by decide +kernel)
  rw [eK, eR, h64 WK WR hP hLin hVal, h103 WK WR hP hLin hVal]
  try rfl
theorem h105 : StableHlo.after (KernelIdeal.Tail.ks2 (F := Ideal)) WK (Proc.devRef .tc KernelIdeal.main_v411) = StableHlo.after (ReferenceIdeal.Hand.tlOps2 (F := Ideal)) WR (Proc.devRef .tc ReferenceIdeal.main_v463) :=
  by
  have eK := final_binary (KernelIdeal.Tail.writes_ks2 (F := Ideal)) WK 110 (rest := (KernelIdeal.Tail.ks2 (F := Ideal)).drop 111) (wrest := KernelIdeal.Tail.wr_ks2.drop 111) (y := KernelIdeal.main_v411) (a := KernelIdeal.main_v342) (b := KernelIdeal.main_v410) rfl rfl (by decide +kernel) (by decide +kernel) (by decide +kernel)
  have eR := final_binary (ReferenceIdeal.Hand.writes_tlOps2 (F := Ideal)) WR 105 (rest := (ReferenceIdeal.Hand.tlOps2 (F := Ideal)).drop 106) (wrest := ReferenceIdeal.Hand.wr_tlOps2.drop 106) (y := ReferenceIdeal.main_v463) (a := ReferenceIdeal.main_v381) (b := ReferenceIdeal.main_v462) rfl rfl (by decide +kernel) (by decide +kernel) (by decide +kernel)
  rw [eK, eR, hVal, h104 WK WR hP hLin hVal]
  try rfl
theorem h106 : StableHlo.after (KernelIdeal.Tail.ks2 (F := Ideal)) WK (Proc.devRef .tc KernelIdeal.main_c_162) = StableHlo.after (ReferenceIdeal.Hand.tlOps2 (F := Ideal)) WR (Proc.devRef .tc ReferenceIdeal.main_c_168) :=
  by
  have eK := final_nullary (KernelIdeal.Tail.writes_ks2 (F := Ideal)) WK 111 (rest := (KernelIdeal.Tail.ks2 (F := Ideal)).drop 112) (wrest := KernelIdeal.Tail.wr_ks2.drop 112) (y := KernelIdeal.main_c_162) rfl rfl (by decide +kernel)
  have eR := final_nullary (ReferenceIdeal.Hand.writes_tlOps2 (F := Ideal)) WR 106 (rest := (ReferenceIdeal.Hand.tlOps2 (F := Ideal)).drop 107) (wrest := ReferenceIdeal.Hand.wr_tlOps2.drop 107) (y := ReferenceIdeal.main_c_168) rfl rfl (by decide +kernel)
  rw [eK, eR]
  try rfl
theorem h107 : StableHlo.after (KernelIdeal.Tail.ks2 (F := Ideal)) WK (Proc.devRef .tc KernelIdeal.main_v412) = StableHlo.after (ReferenceIdeal.Hand.tlOps2 (F := Ideal)) WR (Proc.devRef .tc ReferenceIdeal.main_v464) :=
  by
  have eK := final_unary (KernelIdeal.Tail.writes_ks2 (F := Ideal)) WK 112 (rest := (KernelIdeal.Tail.ks2 (F := Ideal)).drop 113) (wrest := KernelIdeal.Tail.wr_ks2.drop 113) (y := KernelIdeal.main_v412) (x := KernelIdeal.main_c_162) rfl rfl (by decide +kernel) (by decide +kernel)
  have eR := final_unary (ReferenceIdeal.Hand.writes_tlOps2 (F := Ideal)) WR 107 (rest := (ReferenceIdeal.Hand.tlOps2 (F := Ideal)).drop 108) (wrest := ReferenceIdeal.Hand.wr_tlOps2.drop 108) (y := ReferenceIdeal.main_v464) (x := ReferenceIdeal.main_c_168) rfl rfl (by decide +kernel) (by decide +kernel)
  rw [eK, eR, h106 WK WR hP hLin hVal]
  try rfl
theorem h108 : StableHlo.after (KernelIdeal.Tail.ks2 (F := Ideal)) WK (Proc.devRef .tc KernelIdeal.main_v413) = StableHlo.after (ReferenceIdeal.Hand.tlOps2 (F := Ideal)) WR (Proc.devRef .tc ReferenceIdeal.main_v465) :=
  by
  have eK := final_binary (KernelIdeal.Tail.writes_ks2 (F := Ideal)) WK 113 (rest := (KernelIdeal.Tail.ks2 (F := Ideal)).drop 114) (wrest := KernelIdeal.Tail.wr_ks2.drop 114) (y := KernelIdeal.main_v413) (a := KernelIdeal.main_v408) (b := KernelIdeal.main_v412) rfl rfl (by decide +kernel) (by decide +kernel) (by decide +kernel)
  have eR := final_binary (ReferenceIdeal.Hand.writes_tlOps2 (F := Ideal)) WR 108 (rest := (ReferenceIdeal.Hand.tlOps2 (F := Ideal)).drop 109) (wrest := ReferenceIdeal.Hand.wr_tlOps2.drop 109) (y := ReferenceIdeal.main_v465) (a := ReferenceIdeal.main_v460) (b := ReferenceIdeal.main_v464) rfl rfl (by decide +kernel) (by decide +kernel) (by decide +kernel)
  rw [eK, eR, h101 WK WR hP hLin hVal, h107 WK WR hP hLin hVal]
  try rfl
theorem h109 : StableHlo.after (KernelIdeal.Tail.ks2 (F := Ideal)) WK (Proc.devRef .tc KernelIdeal.main_v414) = StableHlo.after (ReferenceIdeal.Hand.tlOps2 (F := Ideal)) WR (Proc.devRef .tc ReferenceIdeal.main_v466) :=
  by
  have eK := final_binary (KernelIdeal.Tail.writes_ks2 (F := Ideal)) WK 114 (rest := (KernelIdeal.Tail.ks2 (F := Ideal)).drop 115) (wrest := KernelIdeal.Tail.wr_ks2.drop 115) (y := KernelIdeal.main_v414) (a := KernelIdeal.main_v411) (b := KernelIdeal.main_v413) rfl rfl (by decide +kernel) (by decide +kernel) (by decide +kernel)
  have eR := final_binary (ReferenceIdeal.Hand.writes_tlOps2 (F := Ideal)) WR 109 (rest := (ReferenceIdeal.Hand.tlOps2 (F := Ideal)).drop 110) (wrest := ReferenceIdeal.Hand.wr_tlOps2.drop 110) (y := ReferenceIdeal.main_v466) (a := ReferenceIdeal.main_v463) (b := ReferenceIdeal.main_v465) rfl rfl (by decide +kernel) (by decide +kernel) (by decide +kernel)
  rw [eK, eR, h105 WK WR hP hLin hVal, h108 WK WR hP hLin hVal]
  try rfl
theorem h110 : StableHlo.after (KernelIdeal.Tail.ks2 (F := Ideal)) WK (Proc.devRef .tc KernelIdeal.main_c_163) = StableHlo.after (ReferenceIdeal.Hand.tlOps2 (F := Ideal)) WR (Proc.devRef .tc ReferenceIdeal.main_c_169) :=
  by
  have eK := final_nullary (KernelIdeal.Tail.writes_ks2 (F := Ideal)) WK 115 (rest := (KernelIdeal.Tail.ks2 (F := Ideal)).drop 116) (wrest := KernelIdeal.Tail.wr_ks2.drop 116) (y := KernelIdeal.main_c_163) rfl rfl (by decide +kernel)
  have eR := final_nullary (ReferenceIdeal.Hand.writes_tlOps2 (F := Ideal)) WR 110 (rest := (ReferenceIdeal.Hand.tlOps2 (F := Ideal)).drop 111) (wrest := ReferenceIdeal.Hand.wr_tlOps2.drop 111) (y := ReferenceIdeal.main_c_169) rfl rfl (by decide +kernel)
  rw [eK, eR]
  try rfl
theorem h111 : StableHlo.after (KernelIdeal.Tail.ks2 (F := Ideal)) WK (Proc.devRef .tc KernelIdeal.main_call45_v0) = StableHlo.after (ReferenceIdeal.Hand.tlOps2 (F := Ideal)) WR (Proc.devRef .tc ReferenceIdeal.main_call48_v0) :=
  by
  have eK := final_unary (KernelIdeal.Tail.writes_ks2 (F := Ideal)) WK 116 (rest := (KernelIdeal.Tail.ks2 (F := Ideal)).drop 117) (wrest := KernelIdeal.Tail.wr_ks2.drop 117) (y := KernelIdeal.main_call45_v0) (x := KernelIdeal.main_c_163) rfl rfl (by decide +kernel) (by decide +kernel)
  have eR := final_unary (ReferenceIdeal.Hand.writes_tlOps2 (F := Ideal)) WR 111 (rest := (ReferenceIdeal.Hand.tlOps2 (F := Ideal)).drop 112) (wrest := ReferenceIdeal.Hand.wr_tlOps2.drop 112) (y := ReferenceIdeal.main_call48_v0) (x := ReferenceIdeal.main_c_169) rfl rfl (by decide +kernel) (by decide +kernel)
  rw [eK, eR, h110 WK WR hP hLin hVal]
  try rfl
theorem h112 : StableHlo.after (KernelIdeal.Tail.ks2 (F := Ideal)) WK (Proc.devRef .tc KernelIdeal.main_call45_v1) = StableHlo.after (ReferenceIdeal.Hand.tlOps2 (F := Ideal)) WR (Proc.devRef .tc ReferenceIdeal.main_call48_v1) :=
  by
  have eK := final_unary (KernelIdeal.Tail.writes_ks2 (F := Ideal)) WK 117 (rest := (KernelIdeal.Tail.ks2 (F := Ideal)).drop 118) (wrest := KernelIdeal.Tail.wr_ks2.drop 118) (y := KernelIdeal.main_call45_v1) (x := KernelIdeal.main_call45_v0) rfl rfl (by decide +kernel) (by decide +kernel)
  have eR := final_unary (ReferenceIdeal.Hand.writes_tlOps2 (F := Ideal)) WR 112 (rest := (ReferenceIdeal.Hand.tlOps2 (F := Ideal)).drop 113) (wrest := ReferenceIdeal.Hand.wr_tlOps2.drop 113) (y := ReferenceIdeal.main_call48_v1) (x := ReferenceIdeal.main_call48_v0) rfl rfl (by decide +kernel) (by decide +kernel)
  rw [eK, eR, h111 WK WR hP hLin hVal]
  try rfl
theorem h113 : StableHlo.after (KernelIdeal.Tail.ks2 (F := Ideal)) WK (Proc.devRef .tc KernelIdeal.main_v415) = StableHlo.after (ReferenceIdeal.Hand.tlOps2 (F := Ideal)) WR (Proc.devRef .tc ReferenceIdeal.main_v467) :=
  by
  have eK := final_ternary (KernelIdeal.Tail.writes_ks2 (F := Ideal)) WK 118 (rest := (KernelIdeal.Tail.ks2 (F := Ideal)).drop 119) (wrest := KernelIdeal.Tail.wr_ks2.drop 119) (y := KernelIdeal.main_v415) (c := KernelIdeal.main_v414) (a := KernelIdeal.main_v384) (b := KernelIdeal.main_call45_v1) rfl rfl (by decide +kernel) (by decide +kernel) (by decide +kernel) (by decide +kernel)
  have eR := final_ternary (ReferenceIdeal.Hand.writes_tlOps2 (F := Ideal)) WR 113 (rest := (ReferenceIdeal.Hand.tlOps2 (F := Ideal)).drop 114) (wrest := ReferenceIdeal.Hand.wr_tlOps2.drop 114) (y := ReferenceIdeal.main_v467) (c := ReferenceIdeal.main_v466) (a := ReferenceIdeal.main_v436) (b := ReferenceIdeal.main_call48_v1) rfl rfl (by decide +kernel) (by decide +kernel) (by decide +kernel) (by decide +kernel)
  rw [eK, eR, h109 WK WR hP hLin hVal, h64 WK WR hP hLin hVal, h112 WK WR hP hLin hVal]
  try rfl
theorem h114 : StableHlo.after (KernelIdeal.Tail.ks2 (F := Ideal)) WK (Proc.devRef .tc KernelIdeal.main_c_164) = StableHlo.after (ReferenceIdeal.Hand.tlOps2 (F := Ideal)) WR (Proc.devRef .tc ReferenceIdeal.main_c_170) :=
  by
  have eK := final_nullary (KernelIdeal.Tail.writes_ks2 (F := Ideal)) WK 119 (rest := (KernelIdeal.Tail.ks2 (F := Ideal)).drop 120) (wrest := KernelIdeal.Tail.wr_ks2.drop 120) (y := KernelIdeal.main_c_164) rfl rfl (by decide +kernel)
  have eR := final_nullary (ReferenceIdeal.Hand.writes_tlOps2 (F := Ideal)) WR 114 (rest := (ReferenceIdeal.Hand.tlOps2 (F := Ideal)).drop 115) (wrest := ReferenceIdeal.Hand.wr_tlOps2.drop 115) (y := ReferenceIdeal.main_c_170) rfl rfl (by decide +kernel)
  rw [eK, eR]
  try rfl
theorem h115 : StableHlo.after (KernelIdeal.Tail.ks2 (F := Ideal)) WK (Proc.devRef .tc KernelIdeal.main_call46_v0) = StableHlo.after (ReferenceIdeal.Hand.tlOps2 (F := Ideal)) WR (Proc.devRef .tc ReferenceIdeal.main_call49_v0) :=
  by
  have eK := final_unary (KernelIdeal.Tail.writes_ks2 (F := Ideal)) WK 120 (rest := (KernelIdeal.Tail.ks2 (F := Ideal)).drop 121) (wrest := KernelIdeal.Tail.wr_ks2.drop 121) (y := KernelIdeal.main_call46_v0) (x := KernelIdeal.main_c_164) rfl rfl (by decide +kernel) (by decide +kernel)
  have eR := final_unary (ReferenceIdeal.Hand.writes_tlOps2 (F := Ideal)) WR 115 (rest := (ReferenceIdeal.Hand.tlOps2 (F := Ideal)).drop 116) (wrest := ReferenceIdeal.Hand.wr_tlOps2.drop 116) (y := ReferenceIdeal.main_call49_v0) (x := ReferenceIdeal.main_c_170) rfl rfl (by decide +kernel) (by decide +kernel)
  rw [eK, eR, h114 WK WR hP hLin hVal]
  try rfl
theorem h116 : StableHlo.after (KernelIdeal.Tail.ks2 (F := Ideal)) WK (Proc.devRef .tc KernelIdeal.main_call46_v1) = StableHlo.after (ReferenceIdeal.Hand.tlOps2 (F := Ideal)) WR (Proc.devRef .tc ReferenceIdeal.main_call49_v1) :=
  by
  have eK := final_unary (KernelIdeal.Tail.writes_ks2 (F := Ideal)) WK 121 (rest := (KernelIdeal.Tail.ks2 (F := Ideal)).drop 122) (wrest := KernelIdeal.Tail.wr_ks2.drop 122) (y := KernelIdeal.main_call46_v1) (x := KernelIdeal.main_call46_v0) rfl rfl (by decide +kernel) (by decide +kernel)
  have eR := final_unary (ReferenceIdeal.Hand.writes_tlOps2 (F := Ideal)) WR 116 (rest := (ReferenceIdeal.Hand.tlOps2 (F := Ideal)).drop 117) (wrest := ReferenceIdeal.Hand.wr_tlOps2.drop 117) (y := ReferenceIdeal.main_call49_v1) (x := ReferenceIdeal.main_call49_v0) rfl rfl (by decide +kernel) (by decide +kernel)
  rw [eK, eR, h115 WK WR hP hLin hVal]
  try rfl
theorem h117 : StableHlo.after (KernelIdeal.Tail.ks2 (F := Ideal)) WK (Proc.devRef .tc KernelIdeal.main_v416) = StableHlo.after (ReferenceIdeal.Hand.tlOps2 (F := Ideal)) WR (Proc.devRef .tc ReferenceIdeal.main_v468) :=
  by
  have eK := final_ternary (KernelIdeal.Tail.writes_ks2 (F := Ideal)) WK 122 (rest := (KernelIdeal.Tail.ks2 (F := Ideal)).drop 123) (wrest := KernelIdeal.Tail.wr_ks2.drop 123) (y := KernelIdeal.main_v416) (c := KernelIdeal.main_v414) (a := KernelIdeal.main_v408) (b := KernelIdeal.main_call46_v1) rfl rfl (by decide +kernel) (by decide +kernel) (by decide +kernel) (by decide +kernel)
  have eR := final_ternary (ReferenceIdeal.Hand.writes_tlOps2 (F := Ideal)) WR 117 (rest := (ReferenceIdeal.Hand.tlOps2 (F := Ideal)).drop 118) (wrest := ReferenceIdeal.Hand.wr_tlOps2.drop 118) (y := ReferenceIdeal.main_v468) (c := ReferenceIdeal.main_v466) (a := ReferenceIdeal.main_v460) (b := ReferenceIdeal.main_call49_v1) rfl rfl (by decide +kernel) (by decide +kernel) (by decide +kernel) (by decide +kernel)
  rw [eK, eR, h109 WK WR hP hLin hVal, h101 WK WR hP hLin hVal, h116 WK WR hP hLin hVal]
  try rfl
theorem h118 : StableHlo.after (KernelIdeal.Tail.ks2 (F := Ideal)) WK (Proc.devRef .tc KernelIdeal.main_cst_165) = StableHlo.after (ReferenceIdeal.Hand.tlOps2 (F := Ideal)) WR (Proc.devRef .tc ReferenceIdeal.main_cst_171) :=
  by
  have eK := final_nullary (KernelIdeal.Tail.writes_ks2 (F := Ideal)) WK 123 (rest := (KernelIdeal.Tail.ks2 (F := Ideal)).drop 124) (wrest := KernelIdeal.Tail.wr_ks2.drop 124) (y := KernelIdeal.main_cst_165) rfl rfl (by decide +kernel)
  have eR := final_nullary (ReferenceIdeal.Hand.writes_tlOps2 (F := Ideal)) WR 118 (rest := (ReferenceIdeal.Hand.tlOps2 (F := Ideal)).drop 119) (wrest := ReferenceIdeal.Hand.wr_tlOps2.drop 119) (y := ReferenceIdeal.main_cst_171) rfl rfl (by decide +kernel)
  rw [eK, eR]
  try rfl
theorem h119 : StableHlo.after (KernelIdeal.Tail.ks2 (F := Ideal)) WK (Proc.devRef .tc KernelIdeal.main_v417) = StableHlo.after (ReferenceIdeal.Hand.tlOps2 (F := Ideal)) WR (Proc.devRef .tc ReferenceIdeal.main_v469) :=
  by
  have eK := final_unary (KernelIdeal.Tail.writes_ks2 (F := Ideal)) WK 124 (rest := (KernelIdeal.Tail.ks2 (F := Ideal)).drop 125) (wrest := KernelIdeal.Tail.wr_ks2.drop 125) (y := KernelIdeal.main_v417) (x := KernelIdeal.main_cst_165) rfl rfl (by decide +kernel) (by decide +kernel)
  have eR := final_unary (ReferenceIdeal.Hand.writes_tlOps2 (F := Ideal)) WR 119 (rest := (ReferenceIdeal.Hand.tlOps2 (F := Ideal)).drop 120) (wrest := ReferenceIdeal.Hand.wr_tlOps2.drop 120) (y := ReferenceIdeal.main_v469) (x := ReferenceIdeal.main_cst_171) rfl rfl (by decide +kernel) (by decide +kernel)
  rw [eK, eR, h118 WK WR hP hLin hVal]
  try rfl
theorem h120 : StableHlo.after (KernelIdeal.Tail.ks2 (F := Ideal)) WK (Proc.devRef .tc KernelIdeal.main_v418) = StableHlo.after (ReferenceIdeal.Hand.tlOps2 (F := Ideal)) WR (Proc.devRef .tc ReferenceIdeal.main_v470) :=
  by
  have eK := final_unary (KernelIdeal.Tail.writes_ks2 (F := Ideal)) WK 125 (rest := (KernelIdeal.Tail.ks2 (F := Ideal)).drop 126) (wrest := KernelIdeal.Tail.wr_ks2.drop 126) (y := KernelIdeal.main_v418) (x := KernelIdeal.main_v414) rfl rfl (by decide +kernel) (by decide +kernel)
  have eR := final_unary (ReferenceIdeal.Hand.writes_tlOps2 (F := Ideal)) WR 120 (rest := (ReferenceIdeal.Hand.tlOps2 (F := Ideal)).drop 121) (wrest := ReferenceIdeal.Hand.wr_tlOps2.drop 121) (y := ReferenceIdeal.main_v470) (x := ReferenceIdeal.main_v466) rfl rfl (by decide +kernel) (by decide +kernel)
  rw [eK, eR, h109 WK WR hP hLin hVal]
  try rfl
theorem h121 : StableHlo.after (KernelIdeal.Tail.ks2 (F := Ideal)) WK (Proc.devRef .tc KernelIdeal.main_cst_166) = StableHlo.after (ReferenceIdeal.Hand.tlOps2 (F := Ideal)) WR (Proc.devRef .tc ReferenceIdeal.main_cst_172) :=
  by
  have eK := final_nullary (KernelIdeal.Tail.writes_ks2 (F := Ideal)) WK 126 (rest := (KernelIdeal.Tail.ks2 (F := Ideal)).drop 127) (wrest := KernelIdeal.Tail.wr_ks2.drop 127) (y := KernelIdeal.main_cst_166) rfl rfl (by decide +kernel)
  have eR := final_nullary (ReferenceIdeal.Hand.writes_tlOps2 (F := Ideal)) WR 121 (rest := (ReferenceIdeal.Hand.tlOps2 (F := Ideal)).drop 122) (wrest := ReferenceIdeal.Hand.wr_tlOps2.drop 122) (y := ReferenceIdeal.main_cst_172) rfl rfl (by decide +kernel)
  rw [eK, eR]
  try rfl
theorem h122 : StableHlo.after (KernelIdeal.Tail.ks2 (F := Ideal)) WK (Proc.devRef .tc KernelIdeal.main_call47_v0) = StableHlo.after (ReferenceIdeal.Hand.tlOps2 (F := Ideal)) WR (Proc.devRef .tc ReferenceIdeal.main_call50_v0) :=
  by
  have eK := final_unary (KernelIdeal.Tail.writes_ks2 (F := Ideal)) WK 127 (rest := (KernelIdeal.Tail.ks2 (F := Ideal)).drop 128) (wrest := KernelIdeal.Tail.wr_ks2.drop 128) (y := KernelIdeal.main_call47_v0) (x := KernelIdeal.main_cst_166) rfl rfl (by decide +kernel) (by decide +kernel)
  have eR := final_unary (ReferenceIdeal.Hand.writes_tlOps2 (F := Ideal)) WR 122 (rest := (ReferenceIdeal.Hand.tlOps2 (F := Ideal)).drop 123) (wrest := ReferenceIdeal.Hand.wr_tlOps2.drop 123) (y := ReferenceIdeal.main_call50_v0) (x := ReferenceIdeal.main_cst_172) rfl rfl (by decide +kernel) (by decide +kernel)
  rw [eK, eR, h121 WK WR hP hLin hVal]
  try rfl
theorem h123 : StableHlo.after (KernelIdeal.Tail.ks2 (F := Ideal)) WK (Proc.devRef .tc KernelIdeal.main_call47_v1) = StableHlo.after (ReferenceIdeal.Hand.tlOps2 (F := Ideal)) WR (Proc.devRef .tc ReferenceIdeal.main_call50_v1) :=
  by
  have eK := final_unary (KernelIdeal.Tail.writes_ks2 (F := Ideal)) WK 128 (rest := (KernelIdeal.Tail.ks2 (F := Ideal)).drop 129) (wrest := KernelIdeal.Tail.wr_ks2.drop 129) (y := KernelIdeal.main_call47_v1) (x := KernelIdeal.main_v418) rfl rfl (by decide +kernel) (by decide +kernel)
  have eR := final_unary (ReferenceIdeal.Hand.writes_tlOps2 (F := Ideal)) WR 123 (rest := (ReferenceIdeal.Hand.tlOps2 (F := Ideal)).drop 124) (wrest := ReferenceIdeal.Hand.wr_tlOps2.drop 124) (y := ReferenceIdeal.main_call50_v1) (x := ReferenceIdeal.main_v470) rfl rfl (by decide +kernel) (by decide +kernel)
  rw [eK, eR, h120 WK WR hP hLin hVal]
  try rfl
theorem h124 : StableHlo.after (KernelIdeal.Tail.ks2 (F := Ideal)) WK (Proc.devRef .tc KernelIdeal.main_call47_v2) = StableHlo.after (ReferenceIdeal.Hand.tlOps2 (F := Ideal)) WR (Proc.devRef .tc ReferenceIdeal.main_call50_v2) :=
  by
  have eK := final_unary (KernelIdeal.Tail.writes_ks2 (F := Ideal)) WK 129 (rest := (KernelIdeal.Tail.ks2 (F := Ideal)).drop 130) (wrest := KernelIdeal.Tail.wr_ks2.drop 130) (y := KernelIdeal.main_call47_v2) (x := KernelIdeal.main_call47_v0) rfl rfl (by decide +kernel) (by decide +kernel)
  have eR := final_unary (ReferenceIdeal.Hand.writes_tlOps2 (F := Ideal)) WR 124 (rest := (ReferenceIdeal.Hand.tlOps2 (F := Ideal)).drop 125) (wrest := ReferenceIdeal.Hand.wr_tlOps2.drop 125) (y := ReferenceIdeal.main_call50_v2) (x := ReferenceIdeal.main_call50_v0) rfl rfl (by decide +kernel) (by decide +kernel)
  rw [eK, eR, h122 WK WR hP hLin hVal]
  try rfl
theorem h125 : StableHlo.after (KernelIdeal.Tail.ks2 (F := Ideal)) WK (Proc.devRef .tc KernelIdeal.main_v419) = StableHlo.after (ReferenceIdeal.Hand.tlOps2 (F := Ideal)) WR (Proc.devRef .tc ReferenceIdeal.main_v471) :=
  by
  have eK := final_ternary (KernelIdeal.Tail.writes_ks2 (F := Ideal)) WK 130 (rest := (KernelIdeal.Tail.ks2 (F := Ideal)).drop 131) (wrest := KernelIdeal.Tail.wr_ks2.drop 131) (y := KernelIdeal.main_v419) (c := KernelIdeal.main_call47_v1) (a := KernelIdeal.main_v41) (b := KernelIdeal.main_call47_v2) rfl rfl (by decide +kernel) (by decide +kernel) (by decide +kernel) (by decide +kernel)
  have eR := final_ternary (ReferenceIdeal.Hand.writes_tlOps2 (F := Ideal)) WR 125 (rest := (ReferenceIdeal.Hand.tlOps2 (F := Ideal)).drop 126) (wrest := ReferenceIdeal.Hand.wr_tlOps2.drop 126) (y := ReferenceIdeal.main_v471) (c := ReferenceIdeal.main_call50_v1) (a := ReferenceIdeal.main_v365) (b := ReferenceIdeal.main_call50_v2) rfl rfl (by decide +kernel) (by decide +kernel) (by decide +kernel) (by decide +kernel)
  rw [eK, eR, h123 WK WR hP hLin hVal, hP, h124 WK WR hP hLin hVal]
  try rfl
theorem h126 : StableHlo.after (KernelIdeal.Tail.ks2 (F := Ideal)) WK (Proc.devRef .tc KernelIdeal.main_c_167) = StableHlo.after (ReferenceIdeal.Hand.tlOps2 (F := Ideal)) WR (Proc.devRef .tc ReferenceIdeal.main_c_173) :=
  by
  have eK := final_nullary (KernelIdeal.Tail.writes_ks2 (F := Ideal)) WK 131 (rest := (KernelIdeal.Tail.ks2 (F := Ideal)).drop 132) (wrest := KernelIdeal.Tail.wr_ks2.drop 132) (y := KernelIdeal.main_c_167) rfl rfl (by decide +kernel)
  have eR := final_nullary (ReferenceIdeal.Hand.writes_tlOps2 (F := Ideal)) WR 126 (rest := (ReferenceIdeal.Hand.tlOps2 (F := Ideal)).drop 127) (wrest := ReferenceIdeal.Hand.wr_tlOps2.drop 127) (y := ReferenceIdeal.main_c_173) rfl rfl (by decide +kernel)
  rw [eK, eR]
  try rfl
theorem h127 : StableHlo.after (KernelIdeal.Tail.ks2 (F := Ideal)) WK (Proc.devRef .tc KernelIdeal.main_v420) = StableHlo.after (ReferenceIdeal.Hand.tlOps2 (F := Ideal)) WR (Proc.devRef .tc ReferenceIdeal.main_v472) :=
  by
  have eK := final_unary (KernelIdeal.Tail.writes_ks2 (F := Ideal)) WK 132 (rest := (KernelIdeal.Tail.ks2 (F := Ideal)).drop 133) (wrest := KernelIdeal.Tail.wr_ks2.drop 133) (y := KernelIdeal.main_v420) (x := KernelIdeal.main_c_167) rfl rfl (by decide +kernel) (by decide +kernel)
  have eR := final_unary (ReferenceIdeal.Hand.writes_tlOps2 (F := Ideal)) WR 127 (rest := (ReferenceIdeal.Hand.tlOps2 (F := Ideal)).drop 128) (wrest := ReferenceIdeal.Hand.wr_tlOps2.drop 128) (y := ReferenceIdeal.main_v472) (x := ReferenceIdeal.main_c_173) rfl rfl (by decide +kernel) (by decide +kernel)
  rw [eK, eR, h126 WK WR hP hLin hVal]
  try rfl
theorem h128 : StableHlo.after (KernelIdeal.Tail.ks2 (F := Ideal)) WK (Proc.devRef .tc KernelIdeal.main_v421) = StableHlo.after (ReferenceIdeal.Hand.tlOps2 (F := Ideal)) WR (Proc.devRef .tc ReferenceIdeal.main_v473) :=
  by
  have eK := final_binary (KernelIdeal.Tail.writes_ks2 (F := Ideal)) WK 133 (rest := (KernelIdeal.Tail.ks2 (F := Ideal)).drop 134) (wrest := KernelIdeal.Tail.wr_ks2.drop 134) (y := KernelIdeal.main_v421) (a := KernelIdeal.main_v415) (b := KernelIdeal.main_v420) rfl rfl (by decide +kernel) (by decide +kernel) (by decide +kernel)
  have eR := final_binary (ReferenceIdeal.Hand.writes_tlOps2 (F := Ideal)) WR 128 (rest := (ReferenceIdeal.Hand.tlOps2 (F := Ideal)).drop 129) (wrest := ReferenceIdeal.Hand.wr_tlOps2.drop 129) (y := ReferenceIdeal.main_v473) (a := ReferenceIdeal.main_v467) (b := ReferenceIdeal.main_v472) rfl rfl (by decide +kernel) (by decide +kernel) (by decide +kernel)
  rw [eK, eR, h113 WK WR hP hLin hVal, h127 WK WR hP hLin hVal]
  try rfl
theorem h129 : StableHlo.after (KernelIdeal.Tail.ks2 (F := Ideal)) WK (Proc.devRef .tc KernelIdeal.main_c_168) = StableHlo.after (ReferenceIdeal.Hand.tlOps2 (F := Ideal)) WR (Proc.devRef .tc ReferenceIdeal.main_c_174) :=
  by
  have eK := final_nullary (KernelIdeal.Tail.writes_ks2 (F := Ideal)) WK 134 (rest := (KernelIdeal.Tail.ks2 (F := Ideal)).drop 135) (wrest := KernelIdeal.Tail.wr_ks2.drop 135) (y := KernelIdeal.main_c_168) rfl rfl (by decide +kernel)
  have eR := final_nullary (ReferenceIdeal.Hand.writes_tlOps2 (F := Ideal)) WR 129 (rest := (ReferenceIdeal.Hand.tlOps2 (F := Ideal)).drop 130) (wrest := ReferenceIdeal.Hand.wr_tlOps2.drop 130) (y := ReferenceIdeal.main_c_174) rfl rfl (by decide +kernel)
  rw [eK, eR]
  try rfl
theorem h130 : StableHlo.after (KernelIdeal.Tail.ks2 (F := Ideal)) WK (Proc.devRef .tc KernelIdeal.main_v422) = StableHlo.after (ReferenceIdeal.Hand.tlOps2 (F := Ideal)) WR (Proc.devRef .tc ReferenceIdeal.main_v474) :=
  by
  have eK := final_unary (KernelIdeal.Tail.writes_ks2 (F := Ideal)) WK 135 (rest := (KernelIdeal.Tail.ks2 (F := Ideal)).drop 136) (wrest := KernelIdeal.Tail.wr_ks2.drop 136) (y := KernelIdeal.main_v422) (x := KernelIdeal.main_c_168) rfl rfl (by decide +kernel) (by decide +kernel)
  have eR := final_unary (ReferenceIdeal.Hand.writes_tlOps2 (F := Ideal)) WR 130 (rest := (ReferenceIdeal.Hand.tlOps2 (F := Ideal)).drop 131) (wrest := ReferenceIdeal.Hand.wr_tlOps2.drop 131) (y := ReferenceIdeal.main_v474) (x := ReferenceIdeal.main_c_174) rfl rfl (by decide +kernel) (by decide +kernel)
  rw [eK, eR, h129 WK WR hP hLin hVal]
  try rfl
theorem h131 : StableHlo.after (KernelIdeal.Tail.ks2 (F := Ideal)) WK (Proc.devRef .tc KernelIdeal.main_v423) = StableHlo.after (ReferenceIdeal.Hand.tlOps2 (F := Ideal)) WR (Proc.devRef .tc ReferenceIdeal.main_v475) :=
  by
  have eK := final_binary (KernelIdeal.Tail.writes_ks2 (F := Ideal)) WK 136 (rest := (KernelIdeal.Tail.ks2 (F := Ideal)).drop 137) (wrest := KernelIdeal.Tail.wr_ks2.drop 137) (y := KernelIdeal.main_v423) (a := KernelIdeal.main_v415) (b := KernelIdeal.main_v422) rfl rfl (by decide +kernel) (by decide +kernel) (by decide +kernel)
  have eR := final_binary (ReferenceIdeal.Hand.writes_tlOps2 (F := Ideal)) WR 131 (rest := (ReferenceIdeal.Hand.tlOps2 (F := Ideal)).drop 132) (wrest := ReferenceIdeal.Hand.wr_tlOps2.drop 132) (y := ReferenceIdeal.main_v475) (a := ReferenceIdeal.main_v467) (b := ReferenceIdeal.main_v474) rfl rfl (by decide +kernel) (by decide +kernel) (by decide +kernel)
  rw [eK, eR, h113 WK WR hP hLin hVal, h130 WK WR hP hLin hVal]
  try rfl
theorem h132 : StableHlo.after (KernelIdeal.Tail.ks2 (F := Ideal)) WK (Proc.devRef .tc KernelIdeal.main_v424) = StableHlo.after (ReferenceIdeal.Hand.tlOps2 (F := Ideal)) WR (Proc.devRef .tc ReferenceIdeal.main_v476) :=
  by
  have eK := final_ternary (KernelIdeal.Tail.writes_ks2 (F := Ideal)) WK 137 (rest := (KernelIdeal.Tail.ks2 (F := Ideal)).drop 138) (wrest := KernelIdeal.Tail.wr_ks2.drop 138) (y := KernelIdeal.main_v424) (c := KernelIdeal.main_v421) (a := KernelIdeal.main_v423) (b := KernelIdeal.main_v415) rfl rfl (by decide +kernel) (by decide +kernel) (by decide +kernel) (by decide +kernel)
  have eR := final_ternary (ReferenceIdeal.Hand.writes_tlOps2 (F := Ideal)) WR 132 (rest := (ReferenceIdeal.Hand.tlOps2 (F := Ideal)).drop 133) (wrest := ReferenceIdeal.Hand.wr_tlOps2.drop 133) (y := ReferenceIdeal.main_v476) (c := ReferenceIdeal.main_v473) (a := ReferenceIdeal.main_v475) (b := ReferenceIdeal.main_v467) rfl rfl (by decide +kernel) (by decide +kernel) (by decide +kernel) (by decide +kernel)
  rw [eK, eR, h128 WK WR hP hLin hVal, h131 WK WR hP hLin hVal, h113 WK WR hP hLin hVal]
  try rfl
theorem h133 : StableHlo.after (KernelIdeal.Tail.ks2 (F := Ideal)) WK (Proc.devRef .tc KernelIdeal.main_c_169) = StableHlo.after (ReferenceIdeal.Hand.tlOps2 (F := Ideal)) WR (Proc.devRef .tc ReferenceIdeal.main_c_175) :=
  by
  have eK := final_nullary (KernelIdeal.Tail.writes_ks2 (F := Ideal)) WK 138 (rest := (KernelIdeal.Tail.ks2 (F := Ideal)).drop 139) (wrest := KernelIdeal.Tail.wr_ks2.drop 139) (y := KernelIdeal.main_c_169) rfl rfl (by decide +kernel)
  have eR := final_nullary (ReferenceIdeal.Hand.writes_tlOps2 (F := Ideal)) WR 133 (rest := (ReferenceIdeal.Hand.tlOps2 (F := Ideal)).drop 134) (wrest := ReferenceIdeal.Hand.wr_tlOps2.drop 134) (y := ReferenceIdeal.main_c_175) rfl rfl (by decide +kernel)
  rw [eK, eR]
  try rfl
theorem h134 : StableHlo.after (KernelIdeal.Tail.ks2 (F := Ideal)) WK (Proc.devRef .tc KernelIdeal.main_v425) = StableHlo.after (ReferenceIdeal.Hand.tlOps2 (F := Ideal)) WR (Proc.devRef .tc ReferenceIdeal.main_v477) :=
  by
  have eK := final_unary (KernelIdeal.Tail.writes_ks2 (F := Ideal)) WK 139 (rest := (KernelIdeal.Tail.ks2 (F := Ideal)).drop 140) (wrest := KernelIdeal.Tail.wr_ks2.drop 140) (y := KernelIdeal.main_v425) (x := KernelIdeal.main_c_169) rfl rfl (by decide +kernel) (by decide +kernel)
  have eR := final_unary (ReferenceIdeal.Hand.writes_tlOps2 (F := Ideal)) WR 134 (rest := (ReferenceIdeal.Hand.tlOps2 (F := Ideal)).drop 135) (wrest := ReferenceIdeal.Hand.wr_tlOps2.drop 135) (y := ReferenceIdeal.main_v477) (x := ReferenceIdeal.main_c_175) rfl rfl (by decide +kernel) (by decide +kernel)
  rw [eK, eR, h133 WK WR hP hLin hVal]
  try rfl
theorem h135 : StableHlo.after (KernelIdeal.Tail.ks2 (F := Ideal)) WK (Proc.devRef .tc KernelIdeal.main_v426) = StableHlo.after (ReferenceIdeal.Hand.tlOps2 (F := Ideal)) WR (Proc.devRef .tc ReferenceIdeal.main_v478) :=
  by
  have eK := final_binary (KernelIdeal.Tail.writes_ks2 (F := Ideal)) WK 140 (rest := (KernelIdeal.Tail.ks2 (F := Ideal)).drop 141) (wrest := KernelIdeal.Tail.wr_ks2.drop 141) (y := KernelIdeal.main_v426) (a := KernelIdeal.main_v416) (b := KernelIdeal.main_v425) rfl rfl (by decide +kernel) (by decide +kernel) (by decide +kernel)
  have eR := final_binary (ReferenceIdeal.Hand.writes_tlOps2 (F := Ideal)) WR 135 (rest := (ReferenceIdeal.Hand.tlOps2 (F := Ideal)).drop 136) (wrest := ReferenceIdeal.Hand.wr_tlOps2.drop 136) (y := ReferenceIdeal.main_v478) (a := ReferenceIdeal.main_v468) (b := ReferenceIdeal.main_v477) rfl rfl (by decide +kernel) (by decide +kernel) (by decide +kernel)
  rw [eK, eR, h117 WK WR hP hLin hVal, h134 WK WR hP hLin hVal]
  try rfl
theorem h136 : StableHlo.after (KernelIdeal.Tail.ks2 (F := Ideal)) WK (Proc.devRef .tc KernelIdeal.main_c_170) = StableHlo.after (ReferenceIdeal.Hand.tlOps2 (F := Ideal)) WR (Proc.devRef .tc ReferenceIdeal.main_c_176) :=
  by
  have eK := final_nullary (KernelIdeal.Tail.writes_ks2 (F := Ideal)) WK 141 (rest := (KernelIdeal.Tail.ks2 (F := Ideal)).drop 142) (wrest := KernelIdeal.Tail.wr_ks2.drop 142) (y := KernelIdeal.main_c_170) rfl rfl (by decide +kernel)
  have eR := final_nullary (ReferenceIdeal.Hand.writes_tlOps2 (F := Ideal)) WR 136 (rest := (ReferenceIdeal.Hand.tlOps2 (F := Ideal)).drop 137) (wrest := ReferenceIdeal.Hand.wr_tlOps2.drop 137) (y := ReferenceIdeal.main_c_176) rfl rfl (by decide +kernel)
  rw [eK, eR]
  try rfl
theorem h137 : StableHlo.after (KernelIdeal.Tail.ks2 (F := Ideal)) WK (Proc.devRef .tc KernelIdeal.main_v427) = StableHlo.after (ReferenceIdeal.Hand.tlOps2 (F := Ideal)) WR (Proc.devRef .tc ReferenceIdeal.main_v479) :=
  by
  have eK := final_unary (KernelIdeal.Tail.writes_ks2 (F := Ideal)) WK 142 (rest := (KernelIdeal.Tail.ks2 (F := Ideal)).drop 143) (wrest := KernelIdeal.Tail.wr_ks2.drop 143) (y := KernelIdeal.main_v427) (x := KernelIdeal.main_c_170) rfl rfl (by decide +kernel) (by decide +kernel)
  have eR := final_unary (ReferenceIdeal.Hand.writes_tlOps2 (F := Ideal)) WR 137 (rest := (ReferenceIdeal.Hand.tlOps2 (F := Ideal)).drop 138) (wrest := ReferenceIdeal.Hand.wr_tlOps2.drop 138) (y := ReferenceIdeal.main_v479) (x := ReferenceIdeal.main_c_176) rfl rfl (by decide +kernel) (by decide +kernel)
  rw [eK, eR, h136 WK WR hP hLin hVal]
  try rfl
theorem h138 : StableHlo.after (KernelIdeal.Tail.ks2 (F := Ideal)) WK (Proc.devRef .tc KernelIdeal.main_v428) = StableHlo.after (ReferenceIdeal.Hand.tlOps2 (F := Ideal)) WR (Proc.devRef .tc ReferenceIdeal.main_v480) :=
  by
  have eK := final_binary (KernelIdeal.Tail.writes_ks2 (F := Ideal)) WK 143 (rest := (KernelIdeal.Tail.ks2 (F := Ideal)).drop 144) (wrest := KernelIdeal.Tail.wr_ks2.drop 144) (y := KernelIdeal.main_v428) (a := KernelIdeal.main_v416) (b := KernelIdeal.main_v427) rfl rfl (by decide +kernel) (by decide +kernel) (by decide +kernel)
  have eR := final_binary (ReferenceIdeal.Hand.writes_tlOps2 (F := Ideal)) WR 138 (rest := (ReferenceIdeal.Hand.tlOps2 (F := Ideal)).drop 139) (wrest := ReferenceIdeal.Hand.wr_tlOps2.drop 139) (y := ReferenceIdeal.main_v480) (a := ReferenceIdeal.main_v468) (b := ReferenceIdeal.main_v479) rfl rfl (by decide +kernel) (by decide +kernel) (by decide +kernel)
  rw [eK, eR, h117 WK WR hP hLin hVal, h137 WK WR hP hLin hVal]
  try rfl
theorem h139 : StableHlo.after (KernelIdeal.Tail.ks2 (F := Ideal)) WK (Proc.devRef .tc KernelIdeal.main_v429) = StableHlo.after (ReferenceIdeal.Hand.tlOps2 (F := Ideal)) WR (Proc.devRef .tc ReferenceIdeal.main_v481) :=
  by
  have eK := final_ternary (KernelIdeal.Tail.writes_ks2 (F := Ideal)) WK 144 (rest := (KernelIdeal.Tail.ks2 (F := Ideal)).drop 145) (wrest := KernelIdeal.Tail.wr_ks2.drop 145) (y := KernelIdeal.main_v429) (c := KernelIdeal.main_v426) (a := KernelIdeal.main_v428) (b := KernelIdeal.main_v416) rfl rfl (by decide +kernel) (by decide +kernel) (by decide +kernel) (by decide +kernel)
  have eR := final_ternary (ReferenceIdeal.Hand.writes_tlOps2 (F := Ideal)) WR 139 (rest := (ReferenceIdeal.Hand.tlOps2 (F := Ideal)).drop 140) (wrest := ReferenceIdeal.Hand.wr_tlOps2.drop 140) (y := ReferenceIdeal.main_v481) (c := ReferenceIdeal.main_v478) (a := ReferenceIdeal.main_v480) (b := ReferenceIdeal.main_v468) rfl rfl (by decide +kernel) (by decide +kernel) (by decide +kernel) (by decide +kernel)
  rw [eK, eR, h135 WK WR hP hLin hVal, h138 WK WR hP hLin hVal, h117 WK WR hP hLin hVal]
  try rfl
theorem h140 : StableHlo.after (KernelIdeal.Tail.ks2 (F := Ideal)) WK (Proc.devRef .tc KernelIdeal.main_v430) = StableHlo.after (ReferenceIdeal.Hand.tlOps2 (F := Ideal)) WR (Proc.devRef .tc ReferenceIdeal.main_v482) :=
  by
  have eK := final_unary (KernelIdeal.Tail.writes_ks2 (F := Ideal)) WK 145 (rest := (KernelIdeal.Tail.ks2 (F := Ideal)).drop 146) (wrest := KernelIdeal.Tail.wr_ks2.drop 146) (y := KernelIdeal.main_v430) (x := KernelIdeal.main_v424) rfl rfl (by decide +kernel) (by decide +kernel)
  have eR := final_unary (ReferenceIdeal.Hand.writes_tlOps2 (F := Ideal)) WR 140 (rest := (ReferenceIdeal.Hand.tlOps2 (F := Ideal)).drop 141) (wrest := ReferenceIdeal.Hand.wr_tlOps2.drop 141) (y := ReferenceIdeal.main_v482) (x := ReferenceIdeal.main_v476) rfl rfl (by decide +kernel) (by decide +kernel)
  rw [eK, eR, h132 WK WR hP hLin hVal]
  try rfl
theorem h141 : StableHlo.after (KernelIdeal.Tail.ks2 (F := Ideal)) WK (Proc.devRef .tc KernelIdeal.main_v431) = StableHlo.after (ReferenceIdeal.Hand.tlOps2 (F := Ideal)) WR (Proc.devRef .tc ReferenceIdeal.main_v483) :=
  by
  have eK := final_unary (KernelIdeal.Tail.writes_ks2 (F := Ideal)) WK 146 (rest := (KernelIdeal.Tail.ks2 (F := Ideal)).drop 147) (wrest := KernelIdeal.Tail.wr_ks2.drop 147) (y := KernelIdeal.main_v431) (x := KernelIdeal.main_v429) rfl rfl (by decide +kernel) (by decide +kernel)
  have eR := final_unary (ReferenceIdeal.Hand.writes_tlOps2 (F := Ideal)) WR 141 (rest := (ReferenceIdeal.Hand.tlOps2 (F := Ideal)).drop 142) (wrest := ReferenceIdeal.Hand.wr_tlOps2.drop 142) (y := ReferenceIdeal.main_v483) (x := ReferenceIdeal.main_v481) rfl rfl (by decide +kernel) (by decide +kernel)
  rw [eK, eR, h139 WK WR hP hLin hVal]
  try rfl
theorem h142 : StableHlo.after (KernelIdeal.Tail.ks2 (F := Ideal)) WK (Proc.devRef .tc KernelIdeal.main_v432) = StableHlo.after (ReferenceIdeal.Hand.tlOps2 (F := Ideal)) WR (Proc.devRef .tc ReferenceIdeal.main_v484) :=
  by
  have eK := final_binary (KernelIdeal.Tail.writes_ks2 (F := Ideal)) WK 147 (rest := (KernelIdeal.Tail.ks2 (F := Ideal)).drop 148) (wrest := KernelIdeal.Tail.wr_ks2.drop 148) (y := KernelIdeal.main_v432) (a := KernelIdeal.main_v430) (b := KernelIdeal.main_v431) rfl rfl (by decide +kernel) (by decide +kernel) (by decide +kernel)
  have eR := final_binary (ReferenceIdeal.Hand.writes_tlOps2 (F := Ideal)) WR 142 (rest := (ReferenceIdeal.Hand.tlOps2 (F := Ideal)).drop 143) (wrest := ReferenceIdeal.Hand.wr_tlOps2.drop 143) (y := ReferenceIdeal.main_v484) (a := ReferenceIdeal.main_v482) (b := ReferenceIdeal.main_v483) rfl rfl (by decide +kernel) (by decide +kernel) (by decide +kernel)
  rw [eK, eR, h140 WK WR hP hLin hVal, h141 WK WR hP hLin hVal]
  try rfl
theorem h143 : StableHlo.after (KernelIdeal.Tail.ks2 (F := Ideal)) WK (Proc.devRef .tc KernelIdeal.main_v433) = StableHlo.after (ReferenceIdeal.Hand.tlOps2 (F := Ideal)) WR (Proc.devRef .tc ReferenceIdeal.main_v485) :=
  by
  have eK := final_ternary (KernelIdeal.Tail.writes_ks2 (F := Ideal)) WK 148 (rest := (KernelIdeal.Tail.ks2 (F := Ideal)).drop 149) (wrest := KernelIdeal.Tail.wr_ks2.drop 149) (y := KernelIdeal.main_v433) (c := KernelIdeal.main_v417) (a := KernelIdeal.main_v432) (b := KernelIdeal.main_v419) rfl rfl (by decide +kernel) (by decide +kernel) (by decide +kernel) (by decide +kernel)
  have eR := final_ternary (ReferenceIdeal.Hand.writes_tlOps2 (F := Ideal)) WR 143 (rest := (ReferenceIdeal.Hand.tlOps2 (F := Ideal)).drop 144) (wrest := ReferenceIdeal.Hand.wr_tlOps2.drop 144) (y := ReferenceIdeal.main_v485) (c := ReferenceIdeal.main_v469) (a := ReferenceIdeal.main_v484) (b := ReferenceIdeal.main_v471) rfl rfl (by decide +kernel) (by decide +kernel) (by decide +kernel) (by decide +kernel)
  rw [eK, eR, h119 WK WR hP hLin hVal, h142 WK WR hP hLin hVal, h125 WK WR hP hLin hVal]
  try rfl
theorem h144 : StableHlo.after (KernelIdeal.Tail.ks2 (F := Ideal)) WK (Proc.devRef .tc KernelIdeal.main_v434) = StableHlo.after (ReferenceIdeal.Hand.tlOps2 (F := Ideal)) WR (Proc.devRef .tc ReferenceIdeal.main_v486) :=
  by
  have eK := final_unary (KernelIdeal.Tail.writes_ks2 (F := Ideal)) WK 149 (rest := (KernelIdeal.Tail.ks2 (F := Ideal)).drop 150) (wrest := KernelIdeal.Tail.wr_ks2.drop 150) (y := KernelIdeal.main_v434) (x := KernelIdeal.main_v433) rfl rfl (by decide +kernel) (by decide +kernel)
  have eR := final_unary (ReferenceIdeal.Hand.writes_tlOps2 (F := Ideal)) WR 144 (rest := (ReferenceIdeal.Hand.tlOps2 (F := Ideal)).drop 145) (wrest := ReferenceIdeal.Hand.wr_tlOps2.drop 145) (y := ReferenceIdeal.main_v486) (x := ReferenceIdeal.main_v485) rfl rfl (by decide +kernel) (by decide +kernel)
  rw [eK, eR, h143 WK WR hP hLin hVal]
  try rfl
theorem h145 : StableHlo.after (KernelIdeal.Tail.ks2 (F := Ideal)) WK (Proc.devRef .tc KernelIdeal.main_v435) = StableHlo.after (ReferenceIdeal.Hand.tlOps2 (F := Ideal)) WR (Proc.devRef .tc ReferenceIdeal.main_v487) :=
  by
  have eK := final_unary (KernelIdeal.Tail.writes_ks2 (F := Ideal)) WK 150 (rest := (KernelIdeal.Tail.ks2 (F := Ideal)).drop 151) (wrest := KernelIdeal.Tail.wr_ks2.drop 151) (y := KernelIdeal.main_v435) (x := KernelIdeal.main_v414) rfl rfl (by decide +kernel) (by decide +kernel)
  have eR := final_unary (ReferenceIdeal.Hand.writes_tlOps2 (F := Ideal)) WR 145 (rest := (ReferenceIdeal.Hand.tlOps2 (F := Ideal)).drop 146) (wrest := ReferenceIdeal.Hand.wr_tlOps2.drop 146) (y := ReferenceIdeal.main_v487) (x := ReferenceIdeal.main_v466) rfl rfl (by decide +kernel) (by decide +kernel)
  rw [eK, eR, h109 WK WR hP hLin hVal]
  try rfl
theorem h146 : StableHlo.after (KernelIdeal.Tail.ks2 (F := Ideal)) WK (Proc.devRef .tc KernelIdeal.main_c_171) = StableHlo.after (ReferenceIdeal.Hand.tlOps2 (F := Ideal)) WR (Proc.devRef .tc ReferenceIdeal.main_c_177) :=
  by
  have eK := final_nullary (KernelIdeal.Tail.writes_ks2 (F := Ideal)) WK 151 (rest := (KernelIdeal.Tail.ks2 (F := Ideal)).drop 152) (wrest := KernelIdeal.Tail.wr_ks2.drop 152) (y := KernelIdeal.main_c_171) rfl rfl (by decide +kernel)
  have eR := final_nullary (ReferenceIdeal.Hand.writes_tlOps2 (F := Ideal)) WR 146 (rest := (ReferenceIdeal.Hand.tlOps2 (F := Ideal)).drop 147) (wrest := ReferenceIdeal.Hand.wr_tlOps2.drop 147) (y := ReferenceIdeal.main_c_177) rfl rfl (by decide +kernel)
  rw [eK, eR]
  try rfl
theorem h147 : StableHlo.after (KernelIdeal.Tail.ks2 (F := Ideal)) WK (Proc.devRef .tc KernelIdeal.main_v436) = StableHlo.after (ReferenceIdeal.Hand.tlOps2 (F := Ideal)) WR (Proc.devRef .tc ReferenceIdeal.main_v488) :=
  by
  have eK := final_unary (KernelIdeal.Tail.writes_ks2 (F := Ideal)) WK 152 (rest := (KernelIdeal.Tail.ks2 (F := Ideal)).drop 153) (wrest := KernelIdeal.Tail.wr_ks2.drop 153) (y := KernelIdeal.main_v436) (x := KernelIdeal.main_c_171) rfl rfl (by decide +kernel) (by decide +kernel)
  have eR := final_unary (ReferenceIdeal.Hand.writes_tlOps2 (F := Ideal)) WR 147 (rest := (ReferenceIdeal.Hand.tlOps2 (F := Ideal)).drop 148) (wrest := ReferenceIdeal.Hand.wr_tlOps2.drop 148) (y := ReferenceIdeal.main_v488) (x := ReferenceIdeal.main_c_177) rfl rfl (by decide +kernel) (by decide +kernel)
  rw [eK, eR, h146 WK WR hP hLin hVal]
  try rfl
theorem h148 : StableHlo.after (KernelIdeal.Tail.ks2 (F := Ideal)) WK (Proc.devRef .tc KernelIdeal.main_v437) = StableHlo.after (ReferenceIdeal.Hand.tlOps2 (F := Ideal)) WR (Proc.devRef .tc ReferenceIdeal.main_v489) :=
  by
  have eK := final_unary (KernelIdeal.Tail.writes_ks2 (F := Ideal)) WK 153 (rest := (KernelIdeal.Tail.ks2 (F := Ideal)).drop 154) (wrest := KernelIdeal.Tail.wr_ks2.drop 154) (y := KernelIdeal.main_v437) (x := KernelIdeal.main_v415) rfl rfl (by decide +kernel) (by decide +kernel)
  have eR := final_unary (ReferenceIdeal.Hand.writes_tlOps2 (F := Ideal)) WR 148 (rest := (ReferenceIdeal.Hand.tlOps2 (F := Ideal)).drop 149) (wrest := ReferenceIdeal.Hand.wr_tlOps2.drop 149) (y := ReferenceIdeal.main_v489) (x := ReferenceIdeal.main_v467) rfl rfl (by decide +kernel) (by decide +kernel)
  rw [eK, eR, h113 WK WR hP hLin hVal]
  try rfl
theorem h149 : StableHlo.after (KernelIdeal.Tail.ks2 (F := Ideal)) WK (Proc.devRef .tc KernelIdeal.main_v438) = StableHlo.after (ReferenceIdeal.Hand.tlOps2 (F := Ideal)) WR (Proc.devRef .tc ReferenceIdeal.main_v490) :=
  by
  have eK := final_ternary (KernelIdeal.Tail.writes_ks2 (F := Ideal)) WK 154 (rest := (KernelIdeal.Tail.ks2 (F := Ideal)).drop 155) (wrest := KernelIdeal.Tail.wr_ks2.drop 155) (y := KernelIdeal.main_v438) (c := KernelIdeal.main_v436) (a := KernelIdeal.main_v437) (b := KernelIdeal.main_v435) rfl rfl (by decide +kernel) (by decide +kernel) (by decide +kernel) (by decide +kernel)
  have eR := final_ternary (ReferenceIdeal.Hand.writes_tlOps2 (F := Ideal)) WR 149 (rest := (ReferenceIdeal.Hand.tlOps2 (F := Ideal)).drop 150) (wrest := ReferenceIdeal.Hand.wr_tlOps2.drop 150) (y := ReferenceIdeal.main_v490) (c := ReferenceIdeal.main_v488) (a := ReferenceIdeal.main_v489) (b := ReferenceIdeal.main_v487) rfl rfl (by decide +kernel) (by decide +kernel) (by decide +kernel) (by decide +kernel)
  rw [eK, eR, h147 WK WR hP hLin hVal, h148 WK WR hP hLin hVal, h145 WK WR hP hLin hVal]
  try rfl
theorem h150 : StableHlo.after (KernelIdeal.Tail.ks2 (F := Ideal)) WK (Proc.devRef .tc KernelIdeal.main_v439) = StableHlo.after (ReferenceIdeal.Hand.tlOps2 (F := Ideal)) WR (Proc.devRef .tc ReferenceIdeal.main_v491) :=
  by
  have eK := final_unary (KernelIdeal.Tail.writes_ks2 (F := Ideal)) WK 155 (rest := (KernelIdeal.Tail.ks2 (F := Ideal)).drop 156) (wrest := KernelIdeal.Tail.wr_ks2.drop 156) (y := KernelIdeal.main_v439) (x := KernelIdeal.main_v438) rfl rfl (by decide +kernel) (by decide +kernel)
  have eR := final_unary (ReferenceIdeal.Hand.writes_tlOps2 (F := Ideal)) WR 150 (rest := (ReferenceIdeal.Hand.tlOps2 (F := Ideal)).drop 151) (wrest := ReferenceIdeal.Hand.wr_tlOps2.drop 151) (y := ReferenceIdeal.main_v491) (x := ReferenceIdeal.main_v490) rfl rfl (by decide +kernel) (by decide +kernel)
  rw [eK, eR, h149 WK WR hP hLin hVal]
  try rfl
theorem h151 : StableHlo.after (KernelIdeal.Tail.ks2 (F := Ideal)) WK (Proc.devRef .tc KernelIdeal.main_c_172) = StableHlo.after (ReferenceIdeal.Hand.tlOps2 (F := Ideal)) WR (Proc.devRef .tc ReferenceIdeal.main_c_178) :=
  by
  have eK := final_nullary (KernelIdeal.Tail.writes_ks2 (F := Ideal)) WK 156 (rest := (KernelIdeal.Tail.ks2 (F := Ideal)).drop 157) (wrest := KernelIdeal.Tail.wr_ks2.drop 157) (y := KernelIdeal.main_c_172) rfl rfl (by decide +kernel)
  have eR := final_nullary (ReferenceIdeal.Hand.writes_tlOps2 (F := Ideal)) WR 151 (rest := (ReferenceIdeal.Hand.tlOps2 (F := Ideal)).drop 152) (wrest := ReferenceIdeal.Hand.wr_tlOps2.drop 152) (y := ReferenceIdeal.main_c_178) rfl rfl (by decide +kernel)
  rw [eK, eR]
  try rfl
theorem h152 : StableHlo.after (KernelIdeal.Tail.ks2 (F := Ideal)) WK (Proc.devRef .tc KernelIdeal.main_v440) = StableHlo.after (ReferenceIdeal.Hand.tlOps2 (F := Ideal)) WR (Proc.devRef .tc ReferenceIdeal.main_v492) :=
  by
  have eK := final_unary (KernelIdeal.Tail.writes_ks2 (F := Ideal)) WK 157 (rest := (KernelIdeal.Tail.ks2 (F := Ideal)).drop 158) (wrest := KernelIdeal.Tail.wr_ks2.drop 158) (y := KernelIdeal.main_v440) (x := KernelIdeal.main_c_172) rfl rfl (by decide +kernel) (by decide +kernel)
  have eR := final_unary (ReferenceIdeal.Hand.writes_tlOps2 (F := Ideal)) WR 152 (rest := (ReferenceIdeal.Hand.tlOps2 (F := Ideal)).drop 153) (wrest := ReferenceIdeal.Hand.wr_tlOps2.drop 153) (y := ReferenceIdeal.main_v492) (x := ReferenceIdeal.main_c_178) rfl rfl (by decide +kernel) (by decide +kernel)
  rw [eK, eR, h151 WK WR hP hLin hVal]
  try rfl
theorem h153 : StableHlo.after (KernelIdeal.Tail.ks2 (F := Ideal)) WK (Proc.devRef .tc KernelIdeal.main_c_173) = StableHlo.after (ReferenceIdeal.Hand.tlOps2 (F := Ideal)) WR (Proc.devRef .tc ReferenceIdeal.main_c_179) :=
  by
  have eK := final_nullary (KernelIdeal.Tail.writes_ks2 (F := Ideal)) WK 158 (rest := (KernelIdeal.Tail.ks2 (F := Ideal)).drop 159) (wrest := KernelIdeal.Tail.wr_ks2.drop 159) (y := KernelIdeal.main_c_173) rfl rfl (by decide +kernel)
  have eR := final_nullary (ReferenceIdeal.Hand.writes_tlOps2 (F := Ideal)) WR 153 (rest := (ReferenceIdeal.Hand.tlOps2 (F := Ideal)).drop 154) (wrest := ReferenceIdeal.Hand.wr_tlOps2.drop 154) (y := ReferenceIdeal.main_c_179) rfl rfl (by decide +kernel)
  rw [eK, eR]
  try rfl
theorem h154 : StableHlo.after (KernelIdeal.Tail.ks2 (F := Ideal)) WK (Proc.devRef .tc KernelIdeal.main_v441) = StableHlo.after (ReferenceIdeal.Hand.tlOps2 (F := Ideal)) WR (Proc.devRef .tc ReferenceIdeal.main_v493) :=
  by
  have eK := final_unary (KernelIdeal.Tail.writes_ks2 (F := Ideal)) WK 159 (rest := (KernelIdeal.Tail.ks2 (F := Ideal)).drop 160) (wrest := KernelIdeal.Tail.wr_ks2.drop 160) (y := KernelIdeal.main_v441) (x := KernelIdeal.main_c_173) rfl rfl (by decide +kernel) (by decide +kernel)
  have eR := final_unary (ReferenceIdeal.Hand.writes_tlOps2 (F := Ideal)) WR 154 (rest := (ReferenceIdeal.Hand.tlOps2 (F := Ideal)).drop 155) (wrest := ReferenceIdeal.Hand.wr_tlOps2.drop 155) (y := ReferenceIdeal.main_v493) (x := ReferenceIdeal.main_c_179) rfl rfl (by decide +kernel) (by decide +kernel)
  rw [eK, eR, h153 WK WR hP hLin hVal]
  try rfl
theorem h155 : StableHlo.after (KernelIdeal.Tail.ks2 (F := Ideal)) WK (Proc.devRef .tc KernelIdeal.main_v442) = StableHlo.after (ReferenceIdeal.Hand.tlOps2 (F := Ideal)) WR (Proc.devRef .tc ReferenceIdeal.main_v494) :=
  by
  have eK := final_binary (KernelIdeal.Tail.writes_ks2 (F := Ideal)) WK 160 (rest := (KernelIdeal.Tail.ks2 (F := Ideal)).drop 161) (wrest := KernelIdeal.Tail.wr_ks2.drop 161) (y := KernelIdeal.main_v442) (a := KernelIdeal.main_v364) (b := KernelIdeal.main_v441) rfl rfl (by decide +kernel) (by decide +kernel) (by decide +kernel)
  have eR := final_binary (ReferenceIdeal.Hand.writes_tlOps2 (F := Ideal)) WR 155 (rest := (ReferenceIdeal.Hand.tlOps2 (F := Ideal)).drop 156) (wrest := ReferenceIdeal.Hand.wr_tlOps2.drop 156) (y := ReferenceIdeal.main_v494) (a := ReferenceIdeal.main_v416) (b := ReferenceIdeal.main_v493) rfl rfl (by decide +kernel) (by decide +kernel) (by decide +kernel)
  rw [eK, eR, h29 WK WR hP hLin hVal, h154 WK WR hP hLin hVal]
  try rfl
theorem h156 : StableHlo.after (KernelIdeal.Tail.ks2 (F := Ideal)) WK (Proc.devRef .tc KernelIdeal.main_v443) = StableHlo.after (ReferenceIdeal.Hand.tlOps2 (F := Ideal)) WR (Proc.devRef .tc ReferenceIdeal.main_v495) :=
  by
  have eK := final_binary (KernelIdeal.Tail.writes_ks2 (F := Ideal)) WK 161 (rest := (KernelIdeal.Tail.ks2 (F := Ideal)).drop 162) (wrest := KernelIdeal.Tail.wr_ks2.drop 162) (y := KernelIdeal.main_v443) (a := KernelIdeal.main_v360) (b := KernelIdeal.main_v442) rfl rfl (by decide +kernel) (by decide +kernel) (by decide +kernel)
  have eR := final_binary (ReferenceIdeal.Hand.writes_tlOps2 (F := Ideal)) WR 156 (rest := (ReferenceIdeal.Hand.tlOps2 (F := Ideal)).drop 157) (wrest := ReferenceIdeal.Hand.wr_tlOps2.drop 157) (y := ReferenceIdeal.main_v495) (a := ReferenceIdeal.main_v412) (b := ReferenceIdeal.main_v494) rfl rfl (by decide +kernel) (by decide +kernel) (by decide +kernel)
  rw [eK, eR, h22 WK WR hP hLin hVal, h155 WK WR hP hLin hVal]
  try rfl
theorem h157 : StableHlo.after (KernelIdeal.Tail.ks2 (F := Ideal)) WK (Proc.devRef .tc KernelIdeal.main_c_174) = StableHlo.after (ReferenceIdeal.Hand.tlOps2 (F := Ideal)) WR (Proc.devRef .tc ReferenceIdeal.main_c_180) :=
  by
  have eK := final_nullary (KernelIdeal.Tail.writes_ks2 (F := Ideal)) WK 162 (rest := (KernelIdeal.Tail.ks2 (F := Ideal)).drop 163) (wrest := KernelIdeal.Tail.wr_ks2.drop 163) (y := KernelIdeal.main_c_174) rfl rfl (by decide +kernel)
  have eR := final_nullary (ReferenceIdeal.Hand.writes_tlOps2 (F := Ideal)) WR 157 (rest := (ReferenceIdeal.Hand.tlOps2 (F := Ideal)).drop 158) (wrest := ReferenceIdeal.Hand.wr_tlOps2.drop 158) (y := ReferenceIdeal.main_c_180) rfl rfl (by decide +kernel)
  rw [eK, eR]
  try rfl
theorem h158 : StableHlo.after (KernelIdeal.Tail.ks2 (F := Ideal)) WK (Proc.devRef .tc KernelIdeal.main_call48_v0) = StableHlo.after (ReferenceIdeal.Hand.tlOps2 (F := Ideal)) WR (Proc.devRef .tc ReferenceIdeal.main_call51_v0) :=
  by
  have eK := final_unary (KernelIdeal.Tail.writes_ks2 (F := Ideal)) WK 163 (rest := (KernelIdeal.Tail.ks2 (F := Ideal)).drop 164) (wrest := KernelIdeal.Tail.wr_ks2.drop 164) (y := KernelIdeal.main_call48_v0) (x := KernelIdeal.main_c_174) rfl rfl (by decide +kernel) (by decide +kernel)
  have eR := final_unary (ReferenceIdeal.Hand.writes_tlOps2 (F := Ideal)) WR 158 (rest := (ReferenceIdeal.Hand.tlOps2 (F := Ideal)).drop 159) (wrest := ReferenceIdeal.Hand.wr_tlOps2.drop 159) (y := ReferenceIdeal.main_call51_v0) (x := ReferenceIdeal.main_c_180) rfl rfl (by decide +kernel) (by decide +kernel)
  rw [eK, eR, h157 WK WR hP hLin hVal]
  try rfl
theorem h159 : StableHlo.after (KernelIdeal.Tail.ks2 (F := Ideal)) WK (Proc.devRef .tc KernelIdeal.main_call48_v1) = StableHlo.after (ReferenceIdeal.Hand.tlOps2 (F := Ideal)) WR (Proc.devRef .tc ReferenceIdeal.main_call51_v1) :=
  by
  have eK := final_unary (KernelIdeal.Tail.writes_ks2 (F := Ideal)) WK 164 (rest := (KernelIdeal.Tail.ks2 (F := Ideal)).drop 165) (wrest := KernelIdeal.Tail.wr_ks2.drop 165) (y := KernelIdeal.main_call48_v1) (x := KernelIdeal.main_call48_v0) rfl rfl (by decide +kernel) (by decide +kernel)
  have eR := final_unary (ReferenceIdeal.Hand.writes_tlOps2 (F := Ideal)) WR 159 (rest := (ReferenceIdeal.Hand.tlOps2 (F := Ideal)).drop 160) (wrest := ReferenceIdeal.Hand.wr_tlOps2.drop 160) (y := ReferenceIdeal.main_call51_v1) (x := ReferenceIdeal.main_call51_v0) rfl rfl (by decide +kernel) (by decide +kernel)
  rw [eK, eR, h158 WK WR hP hLin hVal]
  try rfl
theorem h160 : StableHlo.after (KernelIdeal.Tail.ks2 (F := Ideal)) WK (Proc.devRef .tc KernelIdeal.main_v444) = StableHlo.after (ReferenceIdeal.Hand.tlOps2 (F := Ideal)) WR (Proc.devRef .tc ReferenceIdeal.main_v496) :=
  by
  have eK := final_ternary (KernelIdeal.Tail.writes_ks2 (F := Ideal)) WK 165 (rest := (KernelIdeal.Tail.ks2 (F := Ideal)).drop 166) (wrest := KernelIdeal.Tail.wr_ks2.drop 166) (y := KernelIdeal.main_v444) (c := KernelIdeal.main_v443) (a := KernelIdeal.main_v364) (b := KernelIdeal.main_call48_v1) rfl rfl (by decide +kernel) (by decide +kernel) (by decide +kernel) (by decide +kernel)
  have eR := final_ternary (ReferenceIdeal.Hand.writes_tlOps2 (F := Ideal)) WR 160 (rest := (ReferenceIdeal.Hand.tlOps2 (F := Ideal)).drop 161) (wrest := ReferenceIdeal.Hand.wr_tlOps2.drop 161) (y := ReferenceIdeal.main_v496) (c := ReferenceIdeal.main_v495) (a := ReferenceIdeal.main_v416) (b := ReferenceIdeal.main_call51_v1) rfl rfl (by decide +kernel) (by decide +kernel) (by decide +kernel) (by decide +kernel)
  rw [eK, eR, h156 WK WR hP hLin hVal, h29 WK WR hP hLin hVal, h159 WK WR hP hLin hVal]
  try rfl
theorem h161 : StableHlo.after (KernelIdeal.Tail.ks2 (F := Ideal)) WK (Proc.devRef .tc KernelIdeal.main_c_175) = StableHlo.after (ReferenceIdeal.Hand.tlOps2 (F := Ideal)) WR (Proc.devRef .tc ReferenceIdeal.main_c_181) :=
  by
  have eK := final_nullary (KernelIdeal.Tail.writes_ks2 (F := Ideal)) WK 166 (rest := (KernelIdeal.Tail.ks2 (F := Ideal)).drop 167) (wrest := KernelIdeal.Tail.wr_ks2.drop 167) (y := KernelIdeal.main_c_175) rfl rfl (by decide +kernel)
  have eR := final_nullary (ReferenceIdeal.Hand.writes_tlOps2 (F := Ideal)) WR 161 (rest := (ReferenceIdeal.Hand.tlOps2 (F := Ideal)).drop 162) (wrest := ReferenceIdeal.Hand.wr_tlOps2.drop 162) (y := ReferenceIdeal.main_c_181) rfl rfl (by decide +kernel)
  rw [eK, eR]
  try rfl
theorem h162 : StableHlo.after (KernelIdeal.Tail.ks2 (F := Ideal)) WK (Proc.devRef .tc KernelIdeal.main_v445) = StableHlo.after (ReferenceIdeal.Hand.tlOps2 (F := Ideal)) WR (Proc.devRef .tc ReferenceIdeal.main_v497) :=
  by
  have eK := final_unary (KernelIdeal.Tail.writes_ks2 (F := Ideal)) WK 167 (rest := (KernelIdeal.Tail.ks2 (F := Ideal)).drop 168) (wrest := KernelIdeal.Tail.wr_ks2.drop 168) (y := KernelIdeal.main_v445) (x := KernelIdeal.main_c_175) rfl rfl (by decide +kernel) (by decide +kernel)
  have eR := final_unary (ReferenceIdeal.Hand.writes_tlOps2 (F := Ideal)) WR 162 (rest := (ReferenceIdeal.Hand.tlOps2 (F := Ideal)).drop 163) (wrest := ReferenceIdeal.Hand.wr_tlOps2.drop 163) (y := ReferenceIdeal.main_v497) (x := ReferenceIdeal.main_c_181) rfl rfl (by decide +kernel) (by decide +kernel)
  rw [eK, eR, h161 WK WR hP hLin hVal]
  try rfl
theorem h163 : StableHlo.after (KernelIdeal.Tail.ks2 (F := Ideal)) WK (Proc.devRef .tc KernelIdeal.main_v446) = StableHlo.after (ReferenceIdeal.Hand.tlOps2 (F := Ideal)) WR (Proc.devRef .tc ReferenceIdeal.main_v498) :=
  by
  have eK := final_binary (KernelIdeal.Tail.writes_ks2 (F := Ideal)) WK 168 (rest := (KernelIdeal.Tail.ks2 (F := Ideal)).drop 169) (wrest := KernelIdeal.Tail.wr_ks2.drop 169) (y := KernelIdeal.main_v446) (a := KernelIdeal.main_v364) (b := KernelIdeal.main_v445) rfl rfl (by decide +kernel) (by decide +kernel) (by decide +kernel)
  have eR := final_binary (ReferenceIdeal.Hand.writes_tlOps2 (F := Ideal)) WR 163 (rest := (ReferenceIdeal.Hand.tlOps2 (F := Ideal)).drop 164) (wrest := ReferenceIdeal.Hand.wr_tlOps2.drop 164) (y := ReferenceIdeal.main_v498) (a := ReferenceIdeal.main_v416) (b := ReferenceIdeal.main_v497) rfl rfl (by decide +kernel) (by decide +kernel) (by decide +kernel)
  rw [eK, eR, h29 WK WR hP hLin hVal, h162 WK WR hP hLin hVal]
  try rfl
theorem h164 : StableHlo.after (KernelIdeal.Tail.ks2 (F := Ideal)) WK (Proc.devRef .tc KernelIdeal.main_v447) = StableHlo.after (ReferenceIdeal.Hand.tlOps2 (F := Ideal)) WR (Proc.devRef .tc ReferenceIdeal.main_v499) :=
  by
  have eK := final_binary (KernelIdeal.Tail.writes_ks2 (F := Ideal)) WK 169 (rest := (KernelIdeal.Tail.ks2 (F := Ideal)).drop 170) (wrest := KernelIdeal.Tail.wr_ks2.drop 170) (y := KernelIdeal.main_v447) (a := KernelIdeal.main_v360) (b := KernelIdeal.main_v446) rfl rfl (by decide +kernel) (by decide +kernel) (by decide +kernel)
  have eR := final_binary (ReferenceIdeal.Hand.writes_tlOps2 (F := Ideal)) WR 164 (rest := (ReferenceIdeal.Hand.tlOps2 (F := Ideal)).drop 165) (wrest := ReferenceIdeal.Hand.wr_tlOps2.drop 165) (y := ReferenceIdeal.main_v499) (a := ReferenceIdeal.main_v412) (b := ReferenceIdeal.main_v498) rfl rfl (by decide +kernel) (by decide +kernel) (by decide +kernel)
  rw [eK, eR, h22 WK WR hP hLin hVal, h163 WK WR hP hLin hVal]
  try rfl
theorem h165 : StableHlo.after (KernelIdeal.Tail.ks2 (F := Ideal)) WK (Proc.devRef .tc KernelIdeal.main_c_176) = StableHlo.after (ReferenceIdeal.Hand.tlOps2 (F := Ideal)) WR (Proc.devRef .tc ReferenceIdeal.main_c_182) :=
  by
  have eK := final_nullary (KernelIdeal.Tail.writes_ks2 (F := Ideal)) WK 170 (rest := (KernelIdeal.Tail.ks2 (F := Ideal)).drop 171) (wrest := KernelIdeal.Tail.wr_ks2.drop 171) (y := KernelIdeal.main_c_176) rfl rfl (by decide +kernel)
  have eR := final_nullary (ReferenceIdeal.Hand.writes_tlOps2 (F := Ideal)) WR 165 (rest := (ReferenceIdeal.Hand.tlOps2 (F := Ideal)).drop 166) (wrest := ReferenceIdeal.Hand.wr_tlOps2.drop 166) (y := ReferenceIdeal.main_c_182) rfl rfl (by decide +kernel)
  rw [eK, eR]
  try rfl
theorem h166 : StableHlo.after (KernelIdeal.Tail.ks2 (F := Ideal)) WK (Proc.devRef .tc KernelIdeal.main_call49_v0) = StableHlo.after (ReferenceIdeal.Hand.tlOps2 (F := Ideal)) WR (Proc.devRef .tc ReferenceIdeal.main_call52_v0) :=
  by
  have eK := final_unary (KernelIdeal.Tail.writes_ks2 (F := Ideal)) WK 171 (rest := (KernelIdeal.Tail.ks2 (F := Ideal)).drop 172) (wrest := KernelIdeal.Tail.wr_ks2.drop 172) (y := KernelIdeal.main_call49_v0) (x := KernelIdeal.main_c_176) rfl rfl (by decide +kernel) (by decide +kernel)
  have eR := final_unary (ReferenceIdeal.Hand.writes_tlOps2 (F := Ideal)) WR 166 (rest := (ReferenceIdeal.Hand.tlOps2 (F := Ideal)).drop 167) (wrest := ReferenceIdeal.Hand.wr_tlOps2.drop 167) (y := ReferenceIdeal.main_call52_v0) (x := ReferenceIdeal.main_c_182) rfl rfl (by decide +kernel) (by decide +kernel)
  rw [eK, eR, h165 WK WR hP hLin hVal]
  try rfl
theorem h167 : StableHlo.after (KernelIdeal.Tail.ks2 (F := Ideal)) WK (Proc.devRef .tc KernelIdeal.main_call49_v1) = StableHlo.after (ReferenceIdeal.Hand.tlOps2 (F := Ideal)) WR (Proc.devRef .tc ReferenceIdeal.main_call52_v1) :=
  by
  have eK := final_unary (KernelIdeal.Tail.writes_ks2 (F := Ideal)) WK 172 (rest := (KernelIdeal.Tail.ks2 (F := Ideal)).drop 173) (wrest := KernelIdeal.Tail.wr_ks2.drop 173) (y := KernelIdeal.main_call49_v1) (x := KernelIdeal.main_call49_v0) rfl rfl (by decide +kernel) (by decide +kernel)
  have eR := final_unary (ReferenceIdeal.Hand.writes_tlOps2 (F := Ideal)) WR 167 (rest := (ReferenceIdeal.Hand.tlOps2 (F := Ideal)).drop 168) (wrest := ReferenceIdeal.Hand.wr_tlOps2.drop 168) (y := ReferenceIdeal.main_call52_v1) (x := ReferenceIdeal.main_call52_v0) rfl rfl (by decide +kernel) (by decide +kernel)
  rw [eK, eR, h166 WK WR hP hLin hVal]
  try rfl
theorem h168 : StableHlo.after (KernelIdeal.Tail.ks2 (F := Ideal)) WK (Proc.devRef .tc KernelIdeal.main_v448) = StableHlo.after (ReferenceIdeal.Hand.tlOps2 (F := Ideal)) WR (Proc.devRef .tc ReferenceIdeal.main_v500) :=
  by
  have eK := final_ternary (KernelIdeal.Tail.writes_ks2 (F := Ideal)) WK 173 (rest := (KernelIdeal.Tail.ks2 (F := Ideal)).drop 174) (wrest := KernelIdeal.Tail.wr_ks2.drop 174) (y := KernelIdeal.main_v448) (c := KernelIdeal.main_v447) (a := KernelIdeal.main_v340) (b := KernelIdeal.main_call49_v1) rfl rfl (by decide +kernel) (by decide +kernel) (by decide +kernel) (by decide +kernel)
  have eR := final_ternary (ReferenceIdeal.Hand.writes_tlOps2 (F := Ideal)) WR 168 (rest := (ReferenceIdeal.Hand.tlOps2 (F := Ideal)).drop 169) (wrest := ReferenceIdeal.Hand.wr_tlOps2.drop 169) (y := ReferenceIdeal.main_v500) (c := ReferenceIdeal.main_v499) (a := ReferenceIdeal.main_v394) (b := ReferenceIdeal.main_call52_v1) rfl rfl (by decide +kernel) (by decide +kernel) (by decide +kernel) (by decide +kernel)
  rw [eK, eR, h164 WK WR hP hLin hVal, hLin, h167 WK WR hP hLin hVal]
  try rfl
theorem h169 : StableHlo.after (KernelIdeal.Tail.ks2 (F := Ideal)) WK (Proc.devRef .tc KernelIdeal.main_c_177) = StableHlo.after (ReferenceIdeal.Hand.tlOps2 (F := Ideal)) WR (Proc.devRef .tc ReferenceIdeal.main_c_183) :=
  by
  have eK := final_nullary (KernelIdeal.Tail.writes_ks2 (F := Ideal)) WK 174 (rest := (KernelIdeal.Tail.ks2 (F := Ideal)).drop 175) (wrest := KernelIdeal.Tail.wr_ks2.drop 175) (y := KernelIdeal.main_c_177) rfl rfl (by decide +kernel)
  have eR := final_nullary (ReferenceIdeal.Hand.writes_tlOps2 (F := Ideal)) WR 169 (rest := (ReferenceIdeal.Hand.tlOps2 (F := Ideal)).drop 170) (wrest := ReferenceIdeal.Hand.wr_tlOps2.drop 170) (y := ReferenceIdeal.main_c_183) rfl rfl (by decide +kernel)
  rw [eK, eR]
  try rfl
theorem h170 : StableHlo.after (KernelIdeal.Tail.ks2 (F := Ideal)) WK (Proc.devRef .tc KernelIdeal.main_v449) = StableHlo.after (ReferenceIdeal.Hand.tlOps2 (F := Ideal)) WR (Proc.devRef .tc ReferenceIdeal.main_v501) :=
  by
  have eK := final_unary (KernelIdeal.Tail.writes_ks2 (F := Ideal)) WK 175 (rest := (KernelIdeal.Tail.ks2 (F := Ideal)).drop 176) (wrest := KernelIdeal.Tail.wr_ks2.drop 176) (y := KernelIdeal.main_v449) (x := KernelIdeal.main_c_177) rfl rfl (by decide +kernel) (by decide +kernel)
  have eR := final_unary (ReferenceIdeal.Hand.writes_tlOps2 (F := Ideal)) WR 170 (rest := (ReferenceIdeal.Hand.tlOps2 (F := Ideal)).drop 171) (wrest := ReferenceIdeal.Hand.wr_tlOps2.drop 171) (y := ReferenceIdeal.main_v501) (x := ReferenceIdeal.main_c_183) rfl rfl (by decide +kernel) (by decide +kernel)
  rw [eK, eR, h169 WK WR hP hLin hVal]
  try rfl
theorem h171 : StableHlo.after (KernelIdeal.Tail.ks2 (F := Ideal)) WK (Proc.devRef .tc KernelIdeal.main_v450) = StableHlo.after (ReferenceIdeal.Hand.tlOps2 (F := Ideal)) WR (Proc.devRef .tc ReferenceIdeal.main_v502) :=
  by
  have eK := final_binary (KernelIdeal.Tail.writes_ks2 (F := Ideal)) WK 176 (rest := (KernelIdeal.Tail.ks2 (F := Ideal)).drop 177) (wrest := KernelIdeal.Tail.wr_ks2.drop 177) (y := KernelIdeal.main_v450) (a := KernelIdeal.main_v444) (b := KernelIdeal.main_v449) rfl rfl (by decide +kernel) (by decide +kernel) (by decide +kernel)
  have eR := final_binary (ReferenceIdeal.Hand.writes_tlOps2 (F := Ideal)) WR 171 (rest := (ReferenceIdeal.Hand.tlOps2 (F := Ideal)).drop 172) (wrest := ReferenceIdeal.Hand.wr_tlOps2.drop 172) (y := ReferenceIdeal.main_v502) (a := ReferenceIdeal.main_v496) (b := ReferenceIdeal.main_v501) rfl rfl (by decide +kernel) (by decide +kernel) (by decide +kernel)
  rw [eK, eR, h160 WK WR hP hLin hVal, h170 WK WR hP hLin hVal]
  try rfl
theorem h172 : StableHlo.after (KernelIdeal.Tail.ks2 (F := Ideal)) WK (Proc.devRef .tc KernelIdeal.main_c_178) = StableHlo.after (ReferenceIdeal.Hand.tlOps2 (F := Ideal)) WR (Proc.devRef .tc ReferenceIdeal.main_c_184) :=
  by
  have eK := final_nullary (KernelIdeal.Tail.writes_ks2 (F := Ideal)) WK 177 (rest := (KernelIdeal.Tail.ks2 (F := Ideal)).drop 178) (wrest := KernelIdeal.Tail.wr_ks2.drop 178) (y := KernelIdeal.main_c_178) rfl rfl (by decide +kernel)
  have eR := final_nullary (ReferenceIdeal.Hand.writes_tlOps2 (F := Ideal)) WR 172 (rest := (ReferenceIdeal.Hand.tlOps2 (F := Ideal)).drop 173) (wrest := ReferenceIdeal.Hand.wr_tlOps2.drop 173) (y := ReferenceIdeal.main_c_184) rfl rfl (by decide +kernel)
  rw [eK, eR]
  try rfl
theorem h173 : StableHlo.after (KernelIdeal.Tail.ks2 (F := Ideal)) WK (Proc.devRef .tc KernelIdeal.main_v451) = StableHlo.after (ReferenceIdeal.Hand.tlOps2 (F := Ideal)) WR (Proc.devRef .tc ReferenceIdeal.main_v503) :=
  by
  have eK := final_unary (KernelIdeal.Tail.writes_ks2 (F := Ideal)) WK 178 (rest := (KernelIdeal.Tail.ks2 (F := Ideal)).drop 179) (wrest := KernelIdeal.Tail.wr_ks2.drop 179) (y := KernelIdeal.main_v451) (x := KernelIdeal.main_c_178) rfl rfl (by decide +kernel) (by decide +kernel)
  have eR := final_unary (ReferenceIdeal.Hand.writes_tlOps2 (F := Ideal)) WR 173 (rest := (ReferenceIdeal.Hand.tlOps2 (F := Ideal)).drop 174) (wrest := ReferenceIdeal.Hand.wr_tlOps2.drop 174) (y := ReferenceIdeal.main_v503) (x := ReferenceIdeal.main_c_184) rfl rfl (by decide +kernel) (by decide +kernel)
  rw [eK, eR, h172 WK WR hP hLin hVal]
  try rfl
theorem h174 : StableHlo.after (KernelIdeal.Tail.ks2 (F := Ideal)) WK (Proc.devRef .tc KernelIdeal.main_v452) = StableHlo.after (ReferenceIdeal.Hand.tlOps2 (F := Ideal)) WR (Proc.devRef .tc ReferenceIdeal.main_v504) :=
  by
  have eK := final_binary (KernelIdeal.Tail.writes_ks2 (F := Ideal)) WK 179 (rest := (KernelIdeal.Tail.ks2 (F := Ideal)).drop 180) (wrest := KernelIdeal.Tail.wr_ks2.drop 180) (y := KernelIdeal.main_v452) (a := KernelIdeal.main_v444) (b := KernelIdeal.main_v451) rfl rfl (by decide +kernel) (by decide +kernel) (by decide +kernel)
  have eR := final_binary (ReferenceIdeal.Hand.writes_tlOps2 (F := Ideal)) WR 174 (rest := (ReferenceIdeal.Hand.tlOps2 (F := Ideal)).drop 175) (wrest := ReferenceIdeal.Hand.wr_tlOps2.drop 175) (y := ReferenceIdeal.main_v504) (a := ReferenceIdeal.main_v496) (b := ReferenceIdeal.main_v503) rfl rfl (by decide +kernel) (by decide +kernel) (by decide +kernel)
  rw [eK, eR, h160 WK WR hP hLin hVal, h173 WK WR hP hLin hVal]
  try rfl
theorem h175 : StableHlo.after (KernelIdeal.Tail.ks2 (F := Ideal)) WK (Proc.devRef .tc KernelIdeal.main_v453) = StableHlo.after (ReferenceIdeal.Hand.tlOps2 (F := Ideal)) WR (Proc.devRef .tc ReferenceIdeal.main_v505) :=
  by
  have eK := final_ternary (KernelIdeal.Tail.writes_ks2 (F := Ideal)) WK 180 (rest := (KernelIdeal.Tail.ks2 (F := Ideal)).drop 181) (wrest := KernelIdeal.Tail.wr_ks2.drop 181) (y := KernelIdeal.main_v453) (c := KernelIdeal.main_v450) (a := KernelIdeal.main_v452) (b := KernelIdeal.main_v444) rfl rfl (by decide +kernel) (by decide +kernel) (by decide +kernel) (by decide +kernel)
  have eR := final_ternary (ReferenceIdeal.Hand.writes_tlOps2 (F := Ideal)) WR 175 (rest := (ReferenceIdeal.Hand.tlOps2 (F := Ideal)).drop 176) (wrest := ReferenceIdeal.Hand.wr_tlOps2.drop 176) (y := ReferenceIdeal.main_v505) (c := ReferenceIdeal.main_v502) (a := ReferenceIdeal.main_v504) (b := ReferenceIdeal.main_v496) rfl rfl (by decide +kernel) (by decide +kernel) (by decide +kernel) (by decide +kernel)
  rw [eK, eR, h171 WK WR hP hLin hVal, h174 WK WR hP hLin hVal, h160 WK WR hP hLin hVal]
  try rfl
theorem h176 : StableHlo.after (KernelIdeal.Tail.ks2 (F := Ideal)) WK (Proc.devRef .tc KernelIdeal.main_v454) = StableHlo.after (ReferenceIdeal.Hand.tlOps2 (F := Ideal)) WR (Proc.devRef .tc ReferenceIdeal.main_v506) :=
  by
  have eK := final_unary (KernelIdeal.Tail.writes_ks2 (F := Ideal)) WK 181 (rest := (KernelIdeal.Tail.ks2 (F := Ideal)).drop 182) (wrest := KernelIdeal.Tail.wr_ks2.drop 182) (y := KernelIdeal.main_v454) (x := KernelIdeal.main_v453) rfl rfl (by decide +kernel) (by decide +kernel)
  have eR := final_unary (ReferenceIdeal.Hand.writes_tlOps2 (F := Ideal)) WR 176 (rest := (ReferenceIdeal.Hand.tlOps2 (F := Ideal)).drop 177) (wrest := ReferenceIdeal.Hand.wr_tlOps2.drop 177) (y := ReferenceIdeal.main_v506) (x := ReferenceIdeal.main_v505) rfl rfl (by decide +kernel) (by decide +kernel)
  rw [eK, eR, h175 WK WR hP hLin hVal]
  try rfl
theorem h177 : StableHlo.after (KernelIdeal.Tail.ks2 (F := Ideal)) WK (Proc.devRef .tc KernelIdeal.main_v455) = StableHlo.after (ReferenceIdeal.Hand.tlOps2 (F := Ideal)) WR (Proc.devRef .tc ReferenceIdeal.main_v507) :=
  by
  have eK := final_ternary (KernelIdeal.Tail.writes_ks2 (F := Ideal)) WK 182 (rest := (KernelIdeal.Tail.ks2 (F := Ideal)).drop 183) (wrest := KernelIdeal.Tail.wr_ks2.drop 183) (y := KernelIdeal.main_v455) (c := KernelIdeal.main_v440) (a := KernelIdeal.main_v454) (b := KernelIdeal.main_v448) rfl rfl (by decide +kernel) (by decide +kernel) (by decide +kernel) (by decide +kernel)
  have eR := final_ternary (ReferenceIdeal.Hand.writes_tlOps2 (F := Ideal)) WR 177 (rest := (ReferenceIdeal.Hand.tlOps2 (F := Ideal)).drop 178) (wrest := ReferenceIdeal.Hand.wr_tlOps2.drop 178) (y := ReferenceIdeal.main_v507) (c := ReferenceIdeal.main_v492) (a := ReferenceIdeal.main_v506) (b := ReferenceIdeal.main_v500) rfl rfl (by decide +kernel) (by decide +kernel) (by decide +kernel) (by decide +kernel)
  rw [eK, eR, h152 WK WR hP hLin hVal, h176 WK WR hP hLin hVal, h168 WK WR hP hLin hVal]
  try rfl
theorem h178 : StableHlo.after (KernelIdeal.Tail.ks2 (F := Ideal)) WK (Proc.devRef .tc KernelIdeal.main_v456) = StableHlo.after (ReferenceIdeal.Hand.tlOps2 (F := Ideal)) WR (Proc.devRef .tc ReferenceIdeal.main_v508) :=
  by
  have eK := final_unary (KernelIdeal.Tail.writes_ks2 (F := Ideal)) WK 183 (rest := (KernelIdeal.Tail.ks2 (F := Ideal)).drop 184) (wrest := KernelIdeal.Tail.wr_ks2.drop 184) (y := KernelIdeal.main_v456) (x := KernelIdeal.main_v455) rfl rfl (by decide +kernel) (by decide +kernel)
  have eR := final_unary (ReferenceIdeal.Hand.writes_tlOps2 (F := Ideal)) WR 178 (rest := (ReferenceIdeal.Hand.tlOps2 (F := Ideal)).drop 179) (wrest := ReferenceIdeal.Hand.wr_tlOps2.drop 179) (y := ReferenceIdeal.main_v508) (x := ReferenceIdeal.main_v507) rfl rfl (by decide +kernel) (by decide +kernel)
  rw [eK, eR, h177 WK WR hP hLin hVal]
  try rfl
theorem h179 : StableHlo.after (KernelIdeal.Tail.ks2 (F := Ideal)) WK (Proc.devRef .tc KernelIdeal.main_c_179) = StableHlo.after (ReferenceIdeal.Hand.tlOps2 (F := Ideal)) WR (Proc.devRef .tc ReferenceIdeal.main_c_185) :=
  by
  have eK := final_nullary (KernelIdeal.Tail.writes_ks2 (F := Ideal)) WK 184 (rest := (KernelIdeal.Tail.ks2 (F := Ideal)).drop 185) (wrest := KernelIdeal.Tail.wr_ks2.drop 185) (y := KernelIdeal.main_c_179) rfl rfl (by decide +kernel)
  have eR := final_nullary (ReferenceIdeal.Hand.writes_tlOps2 (F := Ideal)) WR 179 (rest := (ReferenceIdeal.Hand.tlOps2 (F := Ideal)).drop 180) (wrest := ReferenceIdeal.Hand.wr_tlOps2.drop 180) (y := ReferenceIdeal.main_c_185) rfl rfl (by decide +kernel)
  rw [eK, eR]
  try rfl
theorem h180 : StableHlo.after (KernelIdeal.Tail.ks2 (F := Ideal)) WK (Proc.devRef .tc KernelIdeal.main_v457) = StableHlo.after (ReferenceIdeal.Hand.tlOps2 (F := Ideal)) WR (Proc.devRef .tc ReferenceIdeal.main_v509) :=
  by
  have eK := final_unary (KernelIdeal.Tail.writes_ks2 (F := Ideal)) WK 185 (rest := (KernelIdeal.Tail.ks2 (F := Ideal)).drop 186) (wrest := KernelIdeal.Tail.wr_ks2.drop 186) (y := KernelIdeal.main_v457) (x := KernelIdeal.main_c_179) rfl rfl (by decide +kernel) (by decide +kernel)
  have eR := final_unary (ReferenceIdeal.Hand.writes_tlOps2 (F := Ideal)) WR 180 (rest := (ReferenceIdeal.Hand.tlOps2 (F := Ideal)).drop 181) (wrest := ReferenceIdeal.Hand.wr_tlOps2.drop 181) (y := ReferenceIdeal.main_v509) (x := ReferenceIdeal.main_c_185) rfl rfl (by decide +kernel) (by decide +kernel)
  rw [eK, eR, h179 WK WR hP hLin hVal]
  try rfl
theorem h181 : StableHlo.after (KernelIdeal.Tail.ks2 (F := Ideal)) WK (Proc.devRef .tc KernelIdeal.main_v458) = StableHlo.after (ReferenceIdeal.Hand.tlOps2 (F := Ideal)) WR (Proc.devRef .tc ReferenceIdeal.main_v510) :=
  by
  have eK := final_binary (KernelIdeal.Tail.writes_ks2 (F := Ideal)) WK 186 (rest := (KernelIdeal.Tail.ks2 (F := Ideal)).drop 187) (wrest := KernelIdeal.Tail.wr_ks2.drop 187) (y := KernelIdeal.main_v458) (a := KernelIdeal.main_v456) (b := KernelIdeal.main_v457) rfl rfl (by decide +kernel) (by decide +kernel) (by decide +kernel)
  have eR := final_binary (ReferenceIdeal.Hand.writes_tlOps2 (F := Ideal)) WR 181 (rest := (ReferenceIdeal.Hand.tlOps2 (F := Ideal)).drop 182) (wrest := ReferenceIdeal.Hand.wr_tlOps2.drop 182) (y := ReferenceIdeal.main_v510) (a := ReferenceIdeal.main_v508) (b := ReferenceIdeal.main_v509) rfl rfl (by decide +kernel) (by decide +kernel) (by decide +kernel)
  rw [eK, eR, h178 WK WR hP hLin hVal, h180 WK WR hP hLin hVal]
  try rfl
theorem h182 : StableHlo.after (KernelIdeal.Tail.ks2 (F := Ideal)) WK (Proc.devRef .tc KernelIdeal.main_c_180) = StableHlo.after (ReferenceIdeal.Hand.tlOps2 (F := Ideal)) WR (Proc.devRef .tc ReferenceIdeal.main_c_186) :=
  by
  have eK := final_nullary (KernelIdeal.Tail.writes_ks2 (F := Ideal)) WK 187 (rest := (KernelIdeal.Tail.ks2 (F := Ideal)).drop 188) (wrest := KernelIdeal.Tail.wr_ks2.drop 188) (y := KernelIdeal.main_c_180) rfl rfl (by decide +kernel)
  have eR := final_nullary (ReferenceIdeal.Hand.writes_tlOps2 (F := Ideal)) WR 182 (rest := (ReferenceIdeal.Hand.tlOps2 (F := Ideal)).drop 183) (wrest := ReferenceIdeal.Hand.wr_tlOps2.drop 183) (y := ReferenceIdeal.main_c_186) rfl rfl (by decide +kernel)
  rw [eK, eR]
  try rfl
theorem h183 : StableHlo.after (KernelIdeal.Tail.ks2 (F := Ideal)) WK (Proc.devRef .tc KernelIdeal.main_call50_v0) = StableHlo.after (ReferenceIdeal.Hand.tlOps2 (F := Ideal)) WR (Proc.devRef .tc ReferenceIdeal.main_call53_v0) :=
  by
  have eK := final_unary (KernelIdeal.Tail.writes_ks2 (F := Ideal)) WK 188 (rest := (KernelIdeal.Tail.ks2 (F := Ideal)).drop 189) (wrest := KernelIdeal.Tail.wr_ks2.drop 189) (y := KernelIdeal.main_call50_v0) (x := KernelIdeal.main_c_180) rfl rfl (by decide +kernel) (by decide +kernel)
  have eR := final_unary (ReferenceIdeal.Hand.writes_tlOps2 (F := Ideal)) WR 183 (rest := (ReferenceIdeal.Hand.tlOps2 (F := Ideal)).drop 184) (wrest := ReferenceIdeal.Hand.wr_tlOps2.drop 184) (y := ReferenceIdeal.main_call53_v0) (x := ReferenceIdeal.main_c_186) rfl rfl (by decide +kernel) (by decide +kernel)
  rw [eK, eR, h182 WK WR hP hLin hVal]
  try rfl
theorem h184 : StableHlo.after (KernelIdeal.Tail.ks2 (F := Ideal)) WK (Proc.devRef .tc KernelIdeal.main_call50_v1) = StableHlo.after (ReferenceIdeal.Hand.tlOps2 (F := Ideal)) WR (Proc.devRef .tc ReferenceIdeal.main_call53_v1) :=
  by
  have eK := final_unary (KernelIdeal.Tail.writes_ks2 (F := Ideal)) WK 189 (rest := (KernelIdeal.Tail.ks2 (F := Ideal)).drop 190) (wrest := KernelIdeal.Tail.wr_ks2.drop 190) (y := KernelIdeal.main_call50_v1) (x := KernelIdeal.main_call50_v0) rfl rfl (by decide +kernel) (by decide +kernel)
  have eR := final_unary (ReferenceIdeal.Hand.writes_tlOps2 (F := Ideal)) WR 184 (rest := (ReferenceIdeal.Hand.tlOps2 (F := Ideal)).drop 185) (wrest := ReferenceIdeal.Hand.wr_tlOps2.drop 185) (y := ReferenceIdeal.main_call53_v1) (x := ReferenceIdeal.main_call53_v0) rfl rfl (by decide +kernel) (by decide +kernel)
  rw [eK, eR, h183 WK WR hP hLin hVal]
  try rfl
theorem h185 : StableHlo.after (KernelIdeal.Tail.ks2 (F := Ideal)) WK (Proc.devRef .tc KernelIdeal.main_call50_v2) = StableHlo.after (ReferenceIdeal.Hand.tlOps2 (F := Ideal)) WR (Proc.devRef .tc ReferenceIdeal.main_call53_v2) :=
  by
  have eK := final_binary (KernelIdeal.Tail.writes_ks2 (F := Ideal)) WK 190 (rest := (KernelIdeal.Tail.ks2 (F := Ideal)).drop 191) (wrest := KernelIdeal.Tail.wr_ks2.drop 191) (y := KernelIdeal.main_call50_v2) (a := KernelIdeal.main_v456) (b := KernelIdeal.main_call50_v1) rfl rfl (by decide +kernel) (by decide +kernel) (by decide +kernel)
  have eR := final_binary (ReferenceIdeal.Hand.writes_tlOps2 (F := Ideal)) WR 185 (rest := (ReferenceIdeal.Hand.tlOps2 (F := Ideal)).drop 186) (wrest := ReferenceIdeal.Hand.wr_tlOps2.drop 186) (y := ReferenceIdeal.main_call53_v2) (a := ReferenceIdeal.main_v508) (b := ReferenceIdeal.main_call53_v1) rfl rfl (by decide +kernel) (by decide +kernel) (by decide +kernel)
  rw [eK, eR, h178 WK WR hP hLin hVal, h184 WK WR hP hLin hVal]
  try rfl
theorem h186 : StableHlo.after (KernelIdeal.Tail.ks2 (F := Ideal)) WK (Proc.devRef .tc KernelIdeal.main_call50_v3) = StableHlo.after (ReferenceIdeal.Hand.tlOps2 (F := Ideal)) WR (Proc.devRef .tc ReferenceIdeal.main_call53_v3) :=
  by
  have eK := final_unary (KernelIdeal.Tail.writes_ks2 (F := Ideal)) WK 191 (rest := (KernelIdeal.Tail.ks2 (F := Ideal)).drop 192) (wrest := KernelIdeal.Tail.wr_ks2.drop 192) (y := KernelIdeal.main_call50_v3) (x := KernelIdeal.main_v456) rfl rfl (by decide +kernel) (by decide +kernel)
  have eR := final_unary (ReferenceIdeal.Hand.writes_tlOps2 (F := Ideal)) WR 186 (rest := (ReferenceIdeal.Hand.tlOps2 (F := Ideal)).drop 187) (wrest := ReferenceIdeal.Hand.wr_tlOps2.drop 187) (y := ReferenceIdeal.main_call53_v3) (x := ReferenceIdeal.main_v508) rfl rfl (by decide +kernel) (by decide +kernel)
  rw [eK, eR, h178 WK WR hP hLin hVal]
  try rfl
theorem h187 : StableHlo.after (KernelIdeal.Tail.ks2 (F := Ideal)) WK (Proc.devRef .tc KernelIdeal.main_call50_v4) = StableHlo.after (ReferenceIdeal.Hand.tlOps2 (F := Ideal)) WR (Proc.devRef .tc ReferenceIdeal.main_call53_v4) :=
  by
  have eK := final_unary (KernelIdeal.Tail.writes_ks2 (F := Ideal)) WK 192 (rest := (KernelIdeal.Tail.ks2 (F := Ideal)).drop 193) (wrest := KernelIdeal.Tail.wr_ks2.drop 193) (y := KernelIdeal.main_call50_v4) (x := KernelIdeal.main_call50_v0) rfl rfl (by decide +kernel) (by decide +kernel)
  have eR := final_unary (ReferenceIdeal.Hand.writes_tlOps2 (F := Ideal)) WR 187 (rest := (ReferenceIdeal.Hand.tlOps2 (F := Ideal)).drop 188) (wrest := ReferenceIdeal.Hand.wr_tlOps2.drop 188) (y := ReferenceIdeal.main_call53_v4) (x := ReferenceIdeal.main_call53_v0) rfl rfl (by decide +kernel) (by decide +kernel)
  rw [eK, eR, h183 WK WR hP hLin hVal]
  try rfl
theorem h188 : StableHlo.after (KernelIdeal.Tail.ks2 (F := Ideal)) WK (Proc.devRef .tc KernelIdeal.main_call50_v5) = StableHlo.after (ReferenceIdeal.Hand.tlOps2 (F := Ideal)) WR (Proc.devRef .tc ReferenceIdeal.main_call53_v5) :=
  by
  have eK := final_unary (KernelIdeal.Tail.writes_ks2 (F := Ideal)) WK 193 (rest := (KernelIdeal.Tail.ks2 (F := Ideal)).drop 194) (wrest := KernelIdeal.Tail.wr_ks2.drop 194) (y := KernelIdeal.main_call50_v5) (x := KernelIdeal.main_call50_v4) rfl rfl (by decide +kernel) (by decide +kernel)
  have eR := final_unary (ReferenceIdeal.Hand.writes_tlOps2 (F := Ideal)) WR 188 (rest := (ReferenceIdeal.Hand.tlOps2 (F := Ideal)).drop 189) (wrest := ReferenceIdeal.Hand.wr_tlOps2.drop 189) (y := ReferenceIdeal.main_call53_v5) (x := ReferenceIdeal.main_call53_v4) rfl rfl (by decide +kernel) (by decide +kernel)
  rw [eK, eR, h187 WK WR hP hLin hVal]
  try rfl
theorem h189 : StableHlo.after (KernelIdeal.Tail.ks2 (F := Ideal)) WK (Proc.devRef .tc KernelIdeal.main_call50_v6) = StableHlo.after (ReferenceIdeal.Hand.tlOps2 (F := Ideal)) WR (Proc.devRef .tc ReferenceIdeal.main_call53_v6) :=
  by
  have eK := final_binary (KernelIdeal.Tail.writes_ks2 (F := Ideal)) WK 194 (rest := (KernelIdeal.Tail.ks2 (F := Ideal)).drop 195) (wrest := KernelIdeal.Tail.wr_ks2.drop 195) (y := KernelIdeal.main_call50_v6) (a := KernelIdeal.main_call50_v3) (b := KernelIdeal.main_call50_v5) rfl rfl (by decide +kernel) (by decide +kernel) (by decide +kernel)
  have eR := final_binary (ReferenceIdeal.Hand.writes_tlOps2 (F := Ideal)) WR 189 (rest := (ReferenceIdeal.Hand.tlOps2 (F := Ideal)).drop 190) (wrest := ReferenceIdeal.Hand.wr_tlOps2.drop 190) (y := ReferenceIdeal.main_call53_v6) (a := ReferenceIdeal.main_call53_v3) (b := ReferenceIdeal.main_call53_v5) rfl rfl (by decide +kernel) (by decide +kernel) (by decide +kernel)
  rw [eK, eR, h186 WK WR hP hLin hVal, h188 WK WR hP hLin hVal]
  try rfl
theorem h190 : StableHlo.after (KernelIdeal.Tail.ks2 (F := Ideal)) WK (Proc.devRef .tc KernelIdeal.main_call50_v7) = StableHlo.after (ReferenceIdeal.Hand.tlOps2 (F := Ideal)) WR (Proc.devRef .tc ReferenceIdeal.main_call53_v7) :=
  by
  have eK := final_unary (KernelIdeal.Tail.writes_ks2 (F := Ideal)) WK 195 (rest := (KernelIdeal.Tail.ks2 (F := Ideal)).drop 196) (wrest := KernelIdeal.Tail.wr_ks2.drop 196) (y := KernelIdeal.main_call50_v7) (x := KernelIdeal.main_call50_v0) rfl rfl (by decide +kernel) (by decide +kernel)
  have eR := final_unary (ReferenceIdeal.Hand.writes_tlOps2 (F := Ideal)) WR 190 (rest := (ReferenceIdeal.Hand.tlOps2 (F := Ideal)).drop 191) (wrest := ReferenceIdeal.Hand.wr_tlOps2.drop 191) (y := ReferenceIdeal.main_call53_v7) (x := ReferenceIdeal.main_call53_v0) rfl rfl (by decide +kernel) (by decide +kernel)
  rw [eK, eR, h183 WK WR hP hLin hVal]
  try rfl
theorem h191 : StableHlo.after (KernelIdeal.Tail.ks2 (F := Ideal)) WK (Proc.devRef .tc KernelIdeal.main_call50_v8) = StableHlo.after (ReferenceIdeal.Hand.tlOps2 (F := Ideal)) WR (Proc.devRef .tc ReferenceIdeal.main_call53_v8) :=
  by
  have eK := final_binary (KernelIdeal.Tail.writes_ks2 (F := Ideal)) WK 196 (rest := (KernelIdeal.Tail.ks2 (F := Ideal)).drop 197) (wrest := KernelIdeal.Tail.wr_ks2.drop 197) (y := KernelIdeal.main_call50_v8) (a := KernelIdeal.main_v456) (b := KernelIdeal.main_call50_v7) rfl rfl (by decide +kernel) (by decide +kernel) (by decide +kernel)
  have eR := final_binary (ReferenceIdeal.Hand.writes_tlOps2 (F := Ideal)) WR 191 (rest := (ReferenceIdeal.Hand.tlOps2 (F := Ideal)).drop 192) (wrest := ReferenceIdeal.Hand.wr_tlOps2.drop 192) (y := ReferenceIdeal.main_call53_v8) (a := ReferenceIdeal.main_v508) (b := ReferenceIdeal.main_call53_v7) rfl rfl (by decide +kernel) (by decide +kernel) (by decide +kernel)
  rw [eK, eR, h178 WK WR hP hLin hVal, h190 WK WR hP hLin hVal]
  try rfl
theorem h192 : StableHlo.after (KernelIdeal.Tail.ks2 (F := Ideal)) WK (Proc.devRef .tc KernelIdeal.main_call50_c) = StableHlo.after (ReferenceIdeal.Hand.tlOps2 (F := Ideal)) WR (Proc.devRef .tc ReferenceIdeal.main_call53_c) :=
  by
  have eK := final_nullary (KernelIdeal.Tail.writes_ks2 (F := Ideal)) WK 197 (rest := (KernelIdeal.Tail.ks2 (F := Ideal)).drop 198) (wrest := KernelIdeal.Tail.wr_ks2.drop 198) (y := KernelIdeal.main_call50_c) rfl rfl (by decide +kernel)
  have eR := final_nullary (ReferenceIdeal.Hand.writes_tlOps2 (F := Ideal)) WR 192 (rest := (ReferenceIdeal.Hand.tlOps2 (F := Ideal)).drop 193) (wrest := ReferenceIdeal.Hand.wr_tlOps2.drop 193) (y := ReferenceIdeal.main_call53_c) rfl rfl (by decide +kernel)
  rw [eK, eR]
  try rfl
theorem h193 : StableHlo.after (KernelIdeal.Tail.ks2 (F := Ideal)) WK (Proc.devRef .tc KernelIdeal.main_call50_v9) = StableHlo.after (ReferenceIdeal.Hand.tlOps2 (F := Ideal)) WR (Proc.devRef .tc ReferenceIdeal.main_call53_v9) :=
  by
  have eK := final_unary (KernelIdeal.Tail.writes_ks2 (F := Ideal)) WK 198 (rest := (KernelIdeal.Tail.ks2 (F := Ideal)).drop 199) (wrest := KernelIdeal.Tail.wr_ks2.drop 199) (y := KernelIdeal.main_call50_v9) (x := KernelIdeal.main_call50_c) rfl rfl (by decide +kernel) (by decide +kernel)
  have eR := final_unary (ReferenceIdeal.Hand.writes_tlOps2 (F := Ideal)) WR 193 (rest := (ReferenceIdeal.Hand.tlOps2 (F := Ideal)).drop 194) (wrest := ReferenceIdeal.Hand.wr_tlOps2.drop 194) (y := ReferenceIdeal.main_call53_v9) (x := ReferenceIdeal.main_call53_c) rfl rfl (by decide +kernel) (by decide +kernel)
  rw [eK, eR, h192 WK WR hP hLin hVal]
  try rfl
theorem h194 : StableHlo.after (KernelIdeal.Tail.ks2 (F := Ideal)) WK (Proc.devRef .tc KernelIdeal.main_call50_v10) = StableHlo.after (ReferenceIdeal.Hand.tlOps2 (F := Ideal)) WR (Proc.devRef .tc ReferenceIdeal.main_call53_v10) :=
  by
  have eK := final_binary (KernelIdeal.Tail.writes_ks2 (F := Ideal)) WK 199 (rest := (KernelIdeal.Tail.ks2 (F := Ideal)).drop 200) (wrest := KernelIdeal.Tail.wr_ks2.drop 200) (y := KernelIdeal.main_call50_v10) (a := KernelIdeal.main_call50_v8) (b := KernelIdeal.main_call50_v9) rfl rfl (by decide +kernel) (by decide +kernel) (by decide +kernel)
  have eR := final_binary (ReferenceIdeal.Hand.writes_tlOps2 (F := Ideal)) WR 194 (rest := (ReferenceIdeal.Hand.tlOps2 (F := Ideal)).drop 195) (wrest := ReferenceIdeal.Hand.wr_tlOps2.drop 195) (y := ReferenceIdeal.main_call53_v10) (a := ReferenceIdeal.main_call53_v8) (b := ReferenceIdeal.main_call53_v9) rfl rfl (by decide +kernel) (by decide +kernel) (by decide +kernel)
  rw [eK, eR, h191 WK WR hP hLin hVal, h193 WK WR hP hLin hVal]
  try rfl
theorem h195 : StableHlo.after (KernelIdeal.Tail.ks2 (F := Ideal)) WK (Proc.devRef .tc KernelIdeal.main_call50_v11) = StableHlo.after (ReferenceIdeal.Hand.tlOps2 (F := Ideal)) WR (Proc.devRef .tc ReferenceIdeal.main_call53_v11) :=
  by
  have eK := final_binary (KernelIdeal.Tail.writes_ks2 (F := Ideal)) WK 200 (rest := (KernelIdeal.Tail.ks2 (F := Ideal)).drop 201) (wrest := KernelIdeal.Tail.wr_ks2.drop 201) (y := KernelIdeal.main_call50_v11) (a := KernelIdeal.main_call50_v6) (b := KernelIdeal.main_call50_v10) rfl rfl (by decide +kernel) (by decide +kernel) (by decide +kernel)
  have eR := final_binary (ReferenceIdeal.Hand.writes_tlOps2 (F := Ideal)) WR 195 (rest := (ReferenceIdeal.Hand.tlOps2 (F := Ideal)).drop 196) (wrest := ReferenceIdeal.Hand.wr_tlOps2.drop 196) (y := ReferenceIdeal.main_call53_v11) (a := ReferenceIdeal.main_call53_v6) (b := ReferenceIdeal.main_call53_v10) rfl rfl (by decide +kernel) (by decide +kernel) (by decide +kernel)
  rw [eK, eR, h189 WK WR hP hLin hVal, h194 WK WR hP hLin hVal]
  try rfl
theorem h196 : StableHlo.after (KernelIdeal.Tail.ks2 (F := Ideal)) WK (Proc.devRef .tc KernelIdeal.main_call50_c_0) = StableHlo.after (ReferenceIdeal.Hand.tlOps2 (F := Ideal)) WR (Proc.devRef .tc ReferenceIdeal.main_call53_c_0) :=
  by
  have eK := final_nullary (KernelIdeal.Tail.writes_ks2 (F := Ideal)) WK 201 (rest := (KernelIdeal.Tail.ks2 (F := Ideal)).drop 202) (wrest := KernelIdeal.Tail.wr_ks2.drop 202) (y := KernelIdeal.main_call50_c_0) rfl rfl (by decide +kernel)
  have eR := final_nullary (ReferenceIdeal.Hand.writes_tlOps2 (F := Ideal)) WR 196 (rest := (ReferenceIdeal.Hand.tlOps2 (F := Ideal)).drop 197) (wrest := ReferenceIdeal.Hand.wr_tlOps2.drop 197) (y := ReferenceIdeal.main_call53_c_0) rfl rfl (by decide +kernel)
  rw [eK, eR]
  try rfl
theorem h197 : StableHlo.after (KernelIdeal.Tail.ks2 (F := Ideal)) WK (Proc.devRef .tc KernelIdeal.main_call50_v12) = StableHlo.after (ReferenceIdeal.Hand.tlOps2 (F := Ideal)) WR (Proc.devRef .tc ReferenceIdeal.main_call53_v12) :=
  by
  have eK := final_unary (KernelIdeal.Tail.writes_ks2 (F := Ideal)) WK 202 (rest := (KernelIdeal.Tail.ks2 (F := Ideal)).drop 203) (wrest := KernelIdeal.Tail.wr_ks2.drop 203) (y := KernelIdeal.main_call50_v12) (x := KernelIdeal.main_call50_c_0) rfl rfl (by decide +kernel) (by decide +kernel)
  have eR := final_unary (ReferenceIdeal.Hand.writes_tlOps2 (F := Ideal)) WR 197 (rest := (ReferenceIdeal.Hand.tlOps2 (F := Ideal)).drop 198) (wrest := ReferenceIdeal.Hand.wr_tlOps2.drop 198) (y := ReferenceIdeal.main_call53_v12) (x := ReferenceIdeal.main_call53_c_0) rfl rfl (by decide +kernel) (by decide +kernel)
  rw [eK, eR, h196 WK WR hP hLin hVal]
  try rfl
theorem h198 : StableHlo.after (KernelIdeal.Tail.ks2 (F := Ideal)) WK (Proc.devRef .tc KernelIdeal.main_call50_v13) = StableHlo.after (ReferenceIdeal.Hand.tlOps2 (F := Ideal)) WR (Proc.devRef .tc ReferenceIdeal.main_call53_v13) :=
  by
  have eK := final_binary (KernelIdeal.Tail.writes_ks2 (F := Ideal)) WK 203 (rest := (KernelIdeal.Tail.ks2 (F := Ideal)).drop 204) (wrest := KernelIdeal.Tail.wr_ks2.drop 204) (y := KernelIdeal.main_call50_v13) (a := KernelIdeal.main_call50_v2) (b := KernelIdeal.main_call50_v12) rfl rfl (by decide +kernel) (by decide +kernel) (by decide +kernel)
  have eR := final_binary (ReferenceIdeal.Hand.writes_tlOps2 (F := Ideal)) WR 198 (rest := (ReferenceIdeal.Hand.tlOps2 (F := Ideal)).drop 199) (wrest := ReferenceIdeal.Hand.wr_tlOps2.drop 199) (y := ReferenceIdeal.main_call53_v13) (a := ReferenceIdeal.main_call53_v2) (b := ReferenceIdeal.main_call53_v12) rfl rfl (by decide +kernel) (by decide +kernel) (by decide +kernel)
  rw [eK, eR, h185 WK WR hP hLin hVal, h197 WK WR hP hLin hVal]
  try rfl
theorem h199 : StableHlo.after (KernelIdeal.Tail.ks2 (F := Ideal)) WK (Proc.devRef .tc KernelIdeal.main_v459) = StableHlo.after (ReferenceIdeal.Hand.tlOps2 (F := Ideal)) WR (Proc.devRef .tc ReferenceIdeal.main_v511) :=
  by
  have eK := final_ternary (KernelIdeal.Tail.writes_ks2 (F := Ideal)) WK 204 (rest := (KernelIdeal.Tail.ks2 (F := Ideal)).drop 205) (wrest := KernelIdeal.Tail.wr_ks2.drop 205) (y := KernelIdeal.main_v459) (c := KernelIdeal.main_call50_v11) (a := KernelIdeal.main_call50_v13) (b := KernelIdeal.main_call50_v2) rfl rfl (by decide +kernel) (by decide +kernel) (by decide +kernel) (by decide +kernel)
  have eR := final_ternary (ReferenceIdeal.Hand.writes_tlOps2 (F := Ideal)) WR 199 (rest := (ReferenceIdeal.Hand.tlOps2 (F := Ideal)).drop 200) (wrest := ReferenceIdeal.Hand.wr_tlOps2.drop 200) (y := ReferenceIdeal.main_v511) (c := ReferenceIdeal.main_call53_v11) (a := ReferenceIdeal.main_call53_v13) (b := ReferenceIdeal.main_call53_v2) rfl rfl (by decide +kernel) (by decide +kernel) (by decide +kernel) (by decide +kernel)
  rw [eK, eR, h195 WK WR hP hLin hVal, h198 WK WR hP hLin hVal, h185 WK WR hP hLin hVal]
  try rfl
theorem h200 : StableHlo.after (KernelIdeal.Tail.ks2 (F := Ideal)) WK (Proc.devRef .tc KernelIdeal.main_c_181) = StableHlo.after (ReferenceIdeal.Hand.tlOps2 (F := Ideal)) WR (Proc.devRef .tc ReferenceIdeal.main_c_187) :=
  by
  have eK := final_nullary (KernelIdeal.Tail.writes_ks2 (F := Ideal)) WK 205 (rest := (KernelIdeal.Tail.ks2 (F := Ideal)).drop 206) (wrest := KernelIdeal.Tail.wr_ks2.drop 206) (y := KernelIdeal.main_c_181) rfl rfl (by decide +kernel)
  have eR := final_nullary (ReferenceIdeal.Hand.writes_tlOps2 (F := Ideal)) WR 200 (rest := (ReferenceIdeal.Hand.tlOps2 (F := Ideal)).drop 201) (wrest := ReferenceIdeal.Hand.wr_tlOps2.drop 201) (y := ReferenceIdeal.main_c_187) rfl rfl (by decide +kernel)
  rw [eK, eR]
  try rfl
theorem h201 : StableHlo.after (KernelIdeal.Tail.ks2 (F := Ideal)) WK (Proc.devRef .tc KernelIdeal.main_call51_v0) = StableHlo.after (ReferenceIdeal.Hand.tlOps2 (F := Ideal)) WR (Proc.devRef .tc ReferenceIdeal.main_call54_v0) :=
  by
  have eK := final_unary (KernelIdeal.Tail.writes_ks2 (F := Ideal)) WK 206 (rest := (KernelIdeal.Tail.ks2 (F := Ideal)).drop 207) (wrest := KernelIdeal.Tail.wr_ks2.drop 207) (y := KernelIdeal.main_call51_v0) (x := KernelIdeal.main_c_181) rfl rfl (by decide +kernel) (by decide +kernel)
  have eR := final_unary (ReferenceIdeal.Hand.writes_tlOps2 (F := Ideal)) WR 201 (rest := (ReferenceIdeal.Hand.tlOps2 (F := Ideal)).drop 202) (wrest := ReferenceIdeal.Hand.wr_tlOps2.drop 202) (y := ReferenceIdeal.main_call54_v0) (x := ReferenceIdeal.main_c_187) rfl rfl (by decide +kernel) (by decide +kernel)
  rw [eK, eR, h200 WK WR hP hLin hVal]
  try rfl
theorem h202 : StableHlo.after (KernelIdeal.Tail.ks2 (F := Ideal)) WK (Proc.devRef .tc KernelIdeal.main_call51_v1) = StableHlo.after (ReferenceIdeal.Hand.tlOps2 (F := Ideal)) WR (Proc.devRef .tc ReferenceIdeal.main_call54_v1) :=
  by
  have eK := final_unary (KernelIdeal.Tail.writes_ks2 (F := Ideal)) WK 207 (rest := (KernelIdeal.Tail.ks2 (F := Ideal)).drop 208) (wrest := KernelIdeal.Tail.wr_ks2.drop 208) (y := KernelIdeal.main_call51_v1) (x := KernelIdeal.main_call51_v0) rfl rfl (by decide +kernel) (by decide +kernel)
  have eR := final_unary (ReferenceIdeal.Hand.writes_tlOps2 (F := Ideal)) WR 202 (rest := (ReferenceIdeal.Hand.tlOps2 (F := Ideal)).drop 203) (wrest := ReferenceIdeal.Hand.wr_tlOps2.drop 203) (y := ReferenceIdeal.main_call54_v1) (x := ReferenceIdeal.main_call54_v0) rfl rfl (by decide +kernel) (by decide +kernel)
  rw [eK, eR, h201 WK WR hP hLin hVal]
  try rfl
theorem h203 : StableHlo.after (KernelIdeal.Tail.ks2 (F := Ideal)) WK (Proc.devRef .tc KernelIdeal.main_v460) = StableHlo.after (ReferenceIdeal.Hand.tlOps2 (F := Ideal)) WR (Proc.devRef .tc ReferenceIdeal.main_v512) :=
  by
  have eK := final_ternary (KernelIdeal.Tail.writes_ks2 (F := Ideal)) WK 208 (rest := (KernelIdeal.Tail.ks2 (F := Ideal)).drop 209) (wrest := KernelIdeal.Tail.wr_ks2.drop 209) (y := KernelIdeal.main_v460) (c := KernelIdeal.main_v458) (a := KernelIdeal.main_v459) (b := KernelIdeal.main_call51_v1) rfl rfl (by decide +kernel) (by decide +kernel) (by decide +kernel) (by decide +kernel)
  have eR := final_ternary (ReferenceIdeal.Hand.writes_tlOps2 (F := Ideal)) WR 203 (rest := (ReferenceIdeal.Hand.tlOps2 (F := Ideal)).drop 204) (wrest := ReferenceIdeal.Hand.wr_tlOps2.drop 204) (y := ReferenceIdeal.main_v512) (c := ReferenceIdeal.main_v510) (a := ReferenceIdeal.main_v511) (b := ReferenceIdeal.main_call54_v1) rfl rfl (by decide +kernel) (by decide +kernel) (by decide +kernel) (by decide +kernel)
  rw [eK, eR, h181 WK WR hP hLin hVal, h199 WK WR hP hLin hVal, h202 WK WR hP hLin hVal]
  try rfl
theorem h204 : StableHlo.after (KernelIdeal.Tail.ks2 (F := Ideal)) WK (Proc.devRef .tc KernelIdeal.main_c_182) = StableHlo.after (ReferenceIdeal.Hand.tlOps2 (F := Ideal)) WR (Proc.devRef .tc ReferenceIdeal.main_c_188) :=
  by
  have eK := final_nullary (KernelIdeal.Tail.writes_ks2 (F := Ideal)) WK 209 (rest := (KernelIdeal.Tail.ks2 (F := Ideal)).drop 210) (wrest := KernelIdeal.Tail.wr_ks2.drop 210) (y := KernelIdeal.main_c_182) rfl rfl (by decide +kernel)
  have eR := final_nullary (ReferenceIdeal.Hand.writes_tlOps2 (F := Ideal)) WR 204 (rest := (ReferenceIdeal.Hand.tlOps2 (F := Ideal)).drop 205) (wrest := ReferenceIdeal.Hand.wr_tlOps2.drop 205) (y := ReferenceIdeal.main_c_188) rfl rfl (by decide +kernel)
  rw [eK, eR]
  try rfl
theorem h205 : StableHlo.after (KernelIdeal.Tail.ks2 (F := Ideal)) WK (Proc.devRef .tc KernelIdeal.main_v461) = StableHlo.after (ReferenceIdeal.Hand.tlOps2 (F := Ideal)) WR (Proc.devRef .tc ReferenceIdeal.main_v513) :=
  by
  have eK := final_unary (KernelIdeal.Tail.writes_ks2 (F := Ideal)) WK 210 (rest := (KernelIdeal.Tail.ks2 (F := Ideal)).drop 211) (wrest := KernelIdeal.Tail.wr_ks2.drop 211) (y := KernelIdeal.main_v461) (x := KernelIdeal.main_c_182) rfl rfl (by decide +kernel) (by decide +kernel)
  have eR := final_unary (ReferenceIdeal.Hand.writes_tlOps2 (F := Ideal)) WR 205 (rest := (ReferenceIdeal.Hand.tlOps2 (F := Ideal)).drop 206) (wrest := ReferenceIdeal.Hand.wr_tlOps2.drop 206) (y := ReferenceIdeal.main_v513) (x := ReferenceIdeal.main_c_188) rfl rfl (by decide +kernel) (by decide +kernel)
  rw [eK, eR, h204 WK WR hP hLin hVal]
  try rfl
theorem h206 : StableHlo.after (KernelIdeal.Tail.ks2 (F := Ideal)) WK (Proc.devRef .tc KernelIdeal.main_v462) = StableHlo.after (ReferenceIdeal.Hand.tlOps2 (F := Ideal)) WR (Proc.devRef .tc ReferenceIdeal.main_v514) :=
  by
  have eK := final_binary (KernelIdeal.Tail.writes_ks2 (F := Ideal)) WK 211 (rest := (KernelIdeal.Tail.ks2 (F := Ideal)).drop 212) (wrest := KernelIdeal.Tail.wr_ks2.drop 212) (y := KernelIdeal.main_v462) (a := KernelIdeal.main_v456) (b := KernelIdeal.main_v461) rfl rfl (by decide +kernel) (by decide +kernel) (by decide +kernel)
  have eR := final_binary (ReferenceIdeal.Hand.writes_tlOps2 (F := Ideal)) WR 206 (rest := (ReferenceIdeal.Hand.tlOps2 (F := Ideal)).drop 207) (wrest := ReferenceIdeal.Hand.wr_tlOps2.drop 207) (y := ReferenceIdeal.main_v514) (a := ReferenceIdeal.main_v508) (b := ReferenceIdeal.main_v513) rfl rfl (by decide +kernel) (by decide +kernel) (by decide +kernel)
  rw [eK, eR, h178 WK WR hP hLin hVal, h205 WK WR hP hLin hVal]
  try rfl
theorem h207 : StableHlo.after (KernelIdeal.Tail.ks2 (F := Ideal)) WK (Proc.devRef .tc KernelIdeal.main_c_183) = StableHlo.after (ReferenceIdeal.Hand.tlOps2 (F := Ideal)) WR (Proc.devRef .tc ReferenceIdeal.main_c_189) :=
  by
  have eK := final_nullary (KernelIdeal.Tail.writes_ks2 (F := Ideal)) WK 212 (rest := (KernelIdeal.Tail.ks2 (F := Ideal)).drop 213) (wrest := KernelIdeal.Tail.wr_ks2.drop 213) (y := KernelIdeal.main_c_183) rfl rfl (by decide +kernel)
  have eR := final_nullary (ReferenceIdeal.Hand.writes_tlOps2 (F := Ideal)) WR 207 (rest := (ReferenceIdeal.Hand.tlOps2 (F := Ideal)).drop 208) (wrest := ReferenceIdeal.Hand.wr_tlOps2.drop 208) (y := ReferenceIdeal.main_c_189) rfl rfl (by decide +kernel)
  rw [eK, eR]
  try rfl
theorem h208 : StableHlo.after (KernelIdeal.Tail.ks2 (F := Ideal)) WK (Proc.devRef .tc KernelIdeal.main_call52_v0) = StableHlo.after (ReferenceIdeal.Hand.tlOps2 (F := Ideal)) WR (Proc.devRef .tc ReferenceIdeal.main_call55_v0) :=
  by
  have eK := final_unary (KernelIdeal.Tail.writes_ks2 (F := Ideal)) WK 213 (rest := (KernelIdeal.Tail.ks2 (F := Ideal)).drop 214) (wrest := KernelIdeal.Tail.wr_ks2.drop 214) (y := KernelIdeal.main_call52_v0) (x := KernelIdeal.main_c_183) rfl rfl (by decide +kernel) (by decide +kernel)
  have eR := final_unary (ReferenceIdeal.Hand.writes_tlOps2 (F := Ideal)) WR 208 (rest := (ReferenceIdeal.Hand.tlOps2 (F := Ideal)).drop 209) (wrest := ReferenceIdeal.Hand.wr_tlOps2.drop 209) (y := ReferenceIdeal.main_call55_v0) (x := ReferenceIdeal.main_c_189) rfl rfl (by decide +kernel) (by decide +kernel)
  rw [eK, eR, h207 WK WR hP hLin hVal]
  try rfl
theorem h209 : StableHlo.after (KernelIdeal.Tail.ks2 (F := Ideal)) WK (Proc.devRef .tc KernelIdeal.main_call52_v1) = StableHlo.after (ReferenceIdeal.Hand.tlOps2 (F := Ideal)) WR (Proc.devRef .tc ReferenceIdeal.main_call55_v1) :=
  by
  have eK := final_unary (KernelIdeal.Tail.writes_ks2 (F := Ideal)) WK 214 (rest := (KernelIdeal.Tail.ks2 (F := Ideal)).drop 215) (wrest := KernelIdeal.Tail.wr_ks2.drop 215) (y := KernelIdeal.main_call52_v1) (x := KernelIdeal.main_call52_v0) rfl rfl (by decide +kernel) (by decide +kernel)
  have eR := final_unary (ReferenceIdeal.Hand.writes_tlOps2 (F := Ideal)) WR 209 (rest := (ReferenceIdeal.Hand.tlOps2 (F := Ideal)).drop 210) (wrest := ReferenceIdeal.Hand.wr_tlOps2.drop 210) (y := ReferenceIdeal.main_call55_v1) (x := ReferenceIdeal.main_call55_v0) rfl rfl (by decide +kernel) (by decide +kernel)
  rw [eK, eR, h208 WK WR hP hLin hVal]
  try rfl
theorem h210 : StableHlo.after (KernelIdeal.Tail.ks2 (F := Ideal)) WK (Proc.devRef .tc KernelIdeal.main_call52_v2) = StableHlo.after (ReferenceIdeal.Hand.tlOps2 (F := Ideal)) WR (Proc.devRef .tc ReferenceIdeal.main_call55_v2) :=
  by
  have eK := final_binary (KernelIdeal.Tail.writes_ks2 (F := Ideal)) WK 215 (rest := (KernelIdeal.Tail.ks2 (F := Ideal)).drop 216) (wrest := KernelIdeal.Tail.wr_ks2.drop 216) (y := KernelIdeal.main_call52_v2) (a := KernelIdeal.main_v456) (b := KernelIdeal.main_call52_v1) rfl rfl (by decide +kernel) (by decide +kernel) (by decide +kernel)
  have eR := final_binary (ReferenceIdeal.Hand.writes_tlOps2 (F := Ideal)) WR 210 (rest := (ReferenceIdeal.Hand.tlOps2 (F := Ideal)).drop 211) (wrest := ReferenceIdeal.Hand.wr_tlOps2.drop 211) (y := ReferenceIdeal.main_call55_v2) (a := ReferenceIdeal.main_v508) (b := ReferenceIdeal.main_call55_v1) rfl rfl (by decide +kernel) (by decide +kernel) (by decide +kernel)
  rw [eK, eR, h178 WK WR hP hLin hVal, h209 WK WR hP hLin hVal]
  try rfl
theorem h211 : StableHlo.after (KernelIdeal.Tail.ks2 (F := Ideal)) WK (Proc.devRef .tc KernelIdeal.main_call52_v3) = StableHlo.after (ReferenceIdeal.Hand.tlOps2 (F := Ideal)) WR (Proc.devRef .tc ReferenceIdeal.main_call55_v3) :=
  by
  have eK := final_unary (KernelIdeal.Tail.writes_ks2 (F := Ideal)) WK 216 (rest := (KernelIdeal.Tail.ks2 (F := Ideal)).drop 217) (wrest := KernelIdeal.Tail.wr_ks2.drop 217) (y := KernelIdeal.main_call52_v3) (x := KernelIdeal.main_v456) rfl rfl (by decide +kernel) (by decide +kernel)
  have eR := final_unary (ReferenceIdeal.Hand.writes_tlOps2 (F := Ideal)) WR 211 (rest := (ReferenceIdeal.Hand.tlOps2 (F := Ideal)).drop 212) (wrest := ReferenceIdeal.Hand.wr_tlOps2.drop 212) (y := ReferenceIdeal.main_call55_v3) (x := ReferenceIdeal.main_v508) rfl rfl (by decide +kernel) (by decide +kernel)
  rw [eK, eR, h178 WK WR hP hLin hVal]
  try rfl
theorem h212 : StableHlo.after (KernelIdeal.Tail.ks2 (F := Ideal)) WK (Proc.devRef .tc KernelIdeal.main_call52_v4) = StableHlo.after (ReferenceIdeal.Hand.tlOps2 (F := Ideal)) WR (Proc.devRef .tc ReferenceIdeal.main_call55_v4) :=
  by
  have eK := final_unary (KernelIdeal.Tail.writes_ks2 (F := Ideal)) WK 217 (rest := (KernelIdeal.Tail.ks2 (F := Ideal)).drop 218) (wrest := KernelIdeal.Tail.wr_ks2.drop 218) (y := KernelIdeal.main_call52_v4) (x := KernelIdeal.main_call52_v0) rfl rfl (by decide +kernel) (by decide +kernel)
  have eR := final_unary (ReferenceIdeal.Hand.writes_tlOps2 (F := Ideal)) WR 212 (rest := (ReferenceIdeal.Hand.tlOps2 (F := Ideal)).drop 213) (wrest := ReferenceIdeal.Hand.wr_tlOps2.drop 213) (y := ReferenceIdeal.main_call55_v4) (x := ReferenceIdeal.main_call55_v0) rfl rfl (by decide +kernel) (by decide +kernel)
  rw [eK, eR, h208 WK WR hP hLin hVal]
  try rfl
theorem h213 : StableHlo.after (KernelIdeal.Tail.ks2 (F := Ideal)) WK (Proc.devRef .tc KernelIdeal.main_call52_v5) = StableHlo.after (ReferenceIdeal.Hand.tlOps2 (F := Ideal)) WR (Proc.devRef .tc ReferenceIdeal.main_call55_v5) :=
  by
  have eK := final_unary (KernelIdeal.Tail.writes_ks2 (F := Ideal)) WK 218 (rest := (KernelIdeal.Tail.ks2 (F := Ideal)).drop 219) (wrest := KernelIdeal.Tail.wr_ks2.drop 219) (y := KernelIdeal.main_call52_v5) (x := KernelIdeal.main_call52_v4) rfl rfl (by decide +kernel) (by decide +kernel)
  have eR := final_unary (ReferenceIdeal.Hand.writes_tlOps2 (F := Ideal)) WR 213 (rest := (ReferenceIdeal.Hand.tlOps2 (F := Ideal)).drop 214) (wrest := ReferenceIdeal.Hand.wr_tlOps2.drop 214) (y := ReferenceIdeal.main_call55_v5) (x := ReferenceIdeal.main_call55_v4) rfl rfl (by decide +kernel) (by decide +kernel)
  rw [eK, eR, h212 WK WR hP hLin hVal]
  try rfl
theorem h214 : StableHlo.after (KernelIdeal.Tail.ks2 (F := Ideal)) WK (Proc.devRef .tc KernelIdeal.main_call52_v6) = StableHlo.after (ReferenceIdeal.Hand.tlOps2 (F := Ideal)) WR (Proc.devRef .tc ReferenceIdeal.main_call55_v6) :=
  by
  have eK := final_binary (KernelIdeal.Tail.writes_ks2 (F := Ideal)) WK 219 (rest := (KernelIdeal.Tail.ks2 (F := Ideal)).drop 220) (wrest := KernelIdeal.Tail.wr_ks2.drop 220) (y := KernelIdeal.main_call52_v6) (a := KernelIdeal.main_call52_v3) (b := KernelIdeal.main_call52_v5) rfl rfl (by decide +kernel) (by decide +kernel) (by decide +kernel)
  have eR := final_binary (ReferenceIdeal.Hand.writes_tlOps2 (F := Ideal)) WR 214 (rest := (ReferenceIdeal.Hand.tlOps2 (F := Ideal)).drop 215) (wrest := ReferenceIdeal.Hand.wr_tlOps2.drop 215) (y := ReferenceIdeal.main_call55_v6) (a := ReferenceIdeal.main_call55_v3) (b := ReferenceIdeal.main_call55_v5) rfl rfl (by decide +kernel) (by decide +kernel) (by decide +kernel)
  rw [eK, eR, h211 WK WR hP hLin hVal, h213 WK WR hP hLin hVal]
  try rfl
theorem h215 : StableHlo.after (KernelIdeal.Tail.ks2 (F := Ideal)) WK (Proc.devRef .tc KernelIdeal.main_call52_v7) = StableHlo.after (ReferenceIdeal.Hand.tlOps2 (F := Ideal)) WR (Proc.devRef .tc ReferenceIdeal.main_call55_v7) :=
  by
  have eK := final_unary (KernelIdeal.Tail.writes_ks2 (F := Ideal)) WK 220 (rest := (KernelIdeal.Tail.ks2 (F := Ideal)).drop 221) (wrest := KernelIdeal.Tail.wr_ks2.drop 221) (y := KernelIdeal.main_call52_v7) (x := KernelIdeal.main_call52_v0) rfl rfl (by decide +kernel) (by decide +kernel)
  have eR := final_unary (ReferenceIdeal.Hand.writes_tlOps2 (F := Ideal)) WR 215 (rest := (ReferenceIdeal.Hand.tlOps2 (F := Ideal)).drop 216) (wrest := ReferenceIdeal.Hand.wr_tlOps2.drop 216) (y := ReferenceIdeal.main_call55_v7) (x := ReferenceIdeal.main_call55_v0) rfl rfl (by decide +kernel) (by decide +kernel)
  rw [eK, eR, h208 WK WR hP hLin hVal]
  try rfl
theorem h216 : StableHlo.after (KernelIdeal.Tail.ks2 (F := Ideal)) WK (Proc.devRef .tc KernelIdeal.main_call52_v8) = StableHlo.after (ReferenceIdeal.Hand.tlOps2 (F := Ideal)) WR (Proc.devRef .tc ReferenceIdeal.main_call55_v8) :=
  by
  have eK := final_binary (KernelIdeal.Tail.writes_ks2 (F := Ideal)) WK 221 (rest := (KernelIdeal.Tail.ks2 (F := Ideal)).drop 222) (wrest := KernelIdeal.Tail.wr_ks2.drop 222) (y := KernelIdeal.main_call52_v8) (a := KernelIdeal.main_v456) (b := KernelIdeal.main_call52_v7) rfl rfl (by decide +kernel) (by decide +kernel) (by decide +kernel)
  have eR := final_binary (ReferenceIdeal.Hand.writes_tlOps2 (F := Ideal)) WR 216 (rest := (ReferenceIdeal.Hand.tlOps2 (F := Ideal)).drop 217) (wrest := ReferenceIdeal.Hand.wr_tlOps2.drop 217) (y := ReferenceIdeal.main_call55_v8) (a := ReferenceIdeal.main_v508) (b := ReferenceIdeal.main_call55_v7) rfl rfl (by decide +kernel) (by decide +kernel) (by decide +kernel)
  rw [eK, eR, h178 WK WR hP hLin hVal, h215 WK WR hP hLin hVal]
  try rfl
theorem h217 : StableHlo.after (KernelIdeal.Tail.ks2 (F := Ideal)) WK (Proc.devRef .tc KernelIdeal.main_call52_c) = StableHlo.after (ReferenceIdeal.Hand.tlOps2 (F := Ideal)) WR (Proc.devRef .tc ReferenceIdeal.main_call55_c) :=
  by
  have eK := final_nullary (KernelIdeal.Tail.writes_ks2 (F := Ideal)) WK 222 (rest := (KernelIdeal.Tail.ks2 (F := Ideal)).drop 223) (wrest := KernelIdeal.Tail.wr_ks2.drop 223) (y := KernelIdeal.main_call52_c) rfl rfl (by decide +kernel)
  have eR := final_nullary (ReferenceIdeal.Hand.writes_tlOps2 (F := Ideal)) WR 217 (rest := (ReferenceIdeal.Hand.tlOps2 (F := Ideal)).drop 218) (wrest := ReferenceIdeal.Hand.wr_tlOps2.drop 218) (y := ReferenceIdeal.main_call55_c) rfl rfl (by decide +kernel)
  rw [eK, eR]
  try rfl
theorem h218 : StableHlo.after (KernelIdeal.Tail.ks2 (F := Ideal)) WK (Proc.devRef .tc KernelIdeal.main_call52_v9) = StableHlo.after (ReferenceIdeal.Hand.tlOps2 (F := Ideal)) WR (Proc.devRef .tc ReferenceIdeal.main_call55_v9) :=
  by
  have eK := final_unary (KernelIdeal.Tail.writes_ks2 (F := Ideal)) WK 223 (rest := (KernelIdeal.Tail.ks2 (F := Ideal)).drop 224) (wrest := KernelIdeal.Tail.wr_ks2.drop 224) (y := KernelIdeal.main_call52_v9) (x := KernelIdeal.main_call52_c) rfl rfl (by decide +kernel) (by decide +kernel)
  have eR := final_unary (ReferenceIdeal.Hand.writes_tlOps2 (F := Ideal)) WR 218 (rest := (ReferenceIdeal.Hand.tlOps2 (F := Ideal)).drop 219) (wrest := ReferenceIdeal.Hand.wr_tlOps2.drop 219) (y := ReferenceIdeal.main_call55_v9) (x := ReferenceIdeal.main_call55_c) rfl rfl (by decide +kernel) (by decide +kernel)
  rw [eK, eR, h217 WK WR hP hLin hVal]
  try rfl
theorem h219 : StableHlo.after (KernelIdeal.Tail.ks2 (F := Ideal)) WK (Proc.devRef .tc KernelIdeal.main_call52_v10) = StableHlo.after (ReferenceIdeal.Hand.tlOps2 (F := Ideal)) WR (Proc.devRef .tc ReferenceIdeal.main_call55_v10) :=
  by
  have eK := final_binary (KernelIdeal.Tail.writes_ks2 (F := Ideal)) WK 224 (rest := (KernelIdeal.Tail.ks2 (F := Ideal)).drop 225) (wrest := KernelIdeal.Tail.wr_ks2.drop 225) (y := KernelIdeal.main_call52_v10) (a := KernelIdeal.main_call52_v8) (b := KernelIdeal.main_call52_v9) rfl rfl (by decide +kernel) (by decide +kernel) (by decide +kernel)
  have eR := final_binary (ReferenceIdeal.Hand.writes_tlOps2 (F := Ideal)) WR 219 (rest := (ReferenceIdeal.Hand.tlOps2 (F := Ideal)).drop 220) (wrest := ReferenceIdeal.Hand.wr_tlOps2.drop 220) (y := ReferenceIdeal.main_call55_v10) (a := ReferenceIdeal.main_call55_v8) (b := ReferenceIdeal.main_call55_v9) rfl rfl (by decide +kernel) (by decide +kernel) (by decide +kernel)
  rw [eK, eR, h216 WK WR hP hLin hVal, h218 WK WR hP hLin hVal]
  try rfl
theorem h220 : StableHlo.after (KernelIdeal.Tail.ks2 (F := Ideal)) WK (Proc.devRef .tc KernelIdeal.main_call52_v11) = StableHlo.after (ReferenceIdeal.Hand.tlOps2 (F := Ideal)) WR (Proc.devRef .tc ReferenceIdeal.main_call55_v11) :=
  by
  have eK := final_binary (KernelIdeal.Tail.writes_ks2 (F := Ideal)) WK 225 (rest := (KernelIdeal.Tail.ks2 (F := Ideal)).drop 226) (wrest := KernelIdeal.Tail.wr_ks2.drop 226) (y := KernelIdeal.main_call52_v11) (a := KernelIdeal.main_call52_v6) (b := KernelIdeal.main_call52_v10) rfl rfl (by decide +kernel) (by decide +kernel) (by decide +kernel)
  have eR := final_binary (ReferenceIdeal.Hand.writes_tlOps2 (F := Ideal)) WR 220 (rest := (ReferenceIdeal.Hand.tlOps2 (F := Ideal)).drop 221) (wrest := ReferenceIdeal.Hand.wr_tlOps2.drop 221) (y := ReferenceIdeal.main_call55_v11) (a := ReferenceIdeal.main_call55_v6) (b := ReferenceIdeal.main_call55_v10) rfl rfl (by decide +kernel) (by decide +kernel) (by decide +kernel)
  rw [eK, eR, h214 WK WR hP hLin hVal, h219 WK WR hP hLin hVal]
  try rfl
theorem h221 : StableHlo.after (KernelIdeal.Tail.ks2 (F := Ideal)) WK (Proc.devRef .tc KernelIdeal.main_call52_c_0) = StableHlo.after (ReferenceIdeal.Hand.tlOps2 (F := Ideal)) WR (Proc.devRef .tc ReferenceIdeal.main_call55_c_0) :=
  by
  have eK := final_nullary (KernelIdeal.Tail.writes_ks2 (F := Ideal)) WK 226 (rest := (KernelIdeal.Tail.ks2 (F := Ideal)).drop 227) (wrest := KernelIdeal.Tail.wr_ks2.drop 227) (y := KernelIdeal.main_call52_c_0) rfl rfl (by decide +kernel)
  have eR := final_nullary (ReferenceIdeal.Hand.writes_tlOps2 (F := Ideal)) WR 221 (rest := (ReferenceIdeal.Hand.tlOps2 (F := Ideal)).drop 222) (wrest := ReferenceIdeal.Hand.wr_tlOps2.drop 222) (y := ReferenceIdeal.main_call55_c_0) rfl rfl (by decide +kernel)
  rw [eK, eR]
  try rfl
theorem h222 : StableHlo.after (KernelIdeal.Tail.ks2 (F := Ideal)) WK (Proc.devRef .tc KernelIdeal.main_call52_v12) = StableHlo.after (ReferenceIdeal.Hand.tlOps2 (F := Ideal)) WR (Proc.devRef .tc ReferenceIdeal.main_call55_v12) :=
  by
  have eK := final_unary (KernelIdeal.Tail.writes_ks2 (F := Ideal)) WK 227 (rest := (KernelIdeal.Tail.ks2 (F := Ideal)).drop 228) (wrest := KernelIdeal.Tail.wr_ks2.drop 228) (y := KernelIdeal.main_call52_v12) (x := KernelIdeal.main_call52_c_0) rfl rfl (by decide +kernel) (by decide +kernel)
  have eR := final_unary (ReferenceIdeal.Hand.writes_tlOps2 (F := Ideal)) WR 222 (rest := (ReferenceIdeal.Hand.tlOps2 (F := Ideal)).drop 223) (wrest := ReferenceIdeal.Hand.wr_tlOps2.drop 223) (y := ReferenceIdeal.main_call55_v12) (x := ReferenceIdeal.main_call55_c_0) rfl rfl (by decide +kernel) (by decide +kernel)
  rw [eK, eR, h221 WK WR hP hLin hVal]
  try rfl
theorem h223 : StableHlo.after (KernelIdeal.Tail.ks2 (F := Ideal)) WK (Proc.devRef .tc KernelIdeal.main_call52_v13) = StableHlo.after (ReferenceIdeal.Hand.tlOps2 (F := Ideal)) WR (Proc.devRef .tc ReferenceIdeal.main_call55_v13) :=
  by
  have eK := final_binary (KernelIdeal.Tail.writes_ks2 (F := Ideal)) WK 228 (rest := (KernelIdeal.Tail.ks2 (F := Ideal)).drop 229) (wrest := KernelIdeal.Tail.wr_ks2.drop 229) (y := KernelIdeal.main_call52_v13) (a := KernelIdeal.main_call52_v2) (b := KernelIdeal.main_call52_v12) rfl rfl (by decide +kernel) (by decide +kernel) (by decide +kernel)
  have eR := final_binary (ReferenceIdeal.Hand.writes_tlOps2 (F := Ideal)) WR 223 (rest := (ReferenceIdeal.Hand.tlOps2 (F := Ideal)).drop 224) (wrest := ReferenceIdeal.Hand.wr_tlOps2.drop 224) (y := ReferenceIdeal.main_call55_v13) (a := ReferenceIdeal.main_call55_v2) (b := ReferenceIdeal.main_call55_v12) rfl rfl (by decide +kernel) (by decide +kernel) (by decide +kernel)
  rw [eK, eR, h210 WK WR hP hLin hVal, h222 WK WR hP hLin hVal]
  try rfl
theorem h224 : StableHlo.after (KernelIdeal.Tail.ks2 (F := Ideal)) WK (Proc.devRef .tc KernelIdeal.main_v463) = StableHlo.after (ReferenceIdeal.Hand.tlOps2 (F := Ideal)) WR (Proc.devRef .tc ReferenceIdeal.main_v515) :=
  by
  have eK := final_ternary (KernelIdeal.Tail.writes_ks2 (F := Ideal)) WK 229 (rest := (KernelIdeal.Tail.ks2 (F := Ideal)).drop 230) (wrest := KernelIdeal.Tail.wr_ks2.drop 230) (y := KernelIdeal.main_v463) (c := KernelIdeal.main_call52_v11) (a := KernelIdeal.main_call52_v13) (b := KernelIdeal.main_call52_v2) rfl rfl (by decide +kernel) (by decide +kernel) (by decide +kernel) (by decide +kernel)
  have eR := final_ternary (ReferenceIdeal.Hand.writes_tlOps2 (F := Ideal)) WR 224 (rest := (ReferenceIdeal.Hand.tlOps2 (F := Ideal)).drop 225) (wrest := ReferenceIdeal.Hand.wr_tlOps2.drop 225) (y := ReferenceIdeal.main_v515) (c := ReferenceIdeal.main_call55_v11) (a := ReferenceIdeal.main_call55_v13) (b := ReferenceIdeal.main_call55_v2) rfl rfl (by decide +kernel) (by decide +kernel) (by decide +kernel) (by decide +kernel)
  rw [eK, eR, h220 WK WR hP hLin hVal, h223 WK WR hP hLin hVal, h210 WK WR hP hLin hVal]
  try rfl
theorem h225 : StableHlo.after (KernelIdeal.Tail.ks2 (F := Ideal)) WK (Proc.devRef .tc KernelIdeal.main_c_184) = StableHlo.after (ReferenceIdeal.Hand.tlOps2 (F := Ideal)) WR (Proc.devRef .tc ReferenceIdeal.main_c_190) :=
  by
  have eK := final_nullary (KernelIdeal.Tail.writes_ks2 (F := Ideal)) WK 230 (rest := (KernelIdeal.Tail.ks2 (F := Ideal)).drop 231) (wrest := KernelIdeal.Tail.wr_ks2.drop 231) (y := KernelIdeal.main_c_184) rfl rfl (by decide +kernel)
  have eR := final_nullary (ReferenceIdeal.Hand.writes_tlOps2 (F := Ideal)) WR 225 (rest := (ReferenceIdeal.Hand.tlOps2 (F := Ideal)).drop 226) (wrest := ReferenceIdeal.Hand.wr_tlOps2.drop 226) (y := ReferenceIdeal.main_c_190) rfl rfl (by decide +kernel)
  rw [eK, eR]
  try rfl
theorem h226 : StableHlo.after (KernelIdeal.Tail.ks2 (F := Ideal)) WK (Proc.devRef .tc KernelIdeal.main_call53_v0) = StableHlo.after (ReferenceIdeal.Hand.tlOps2 (F := Ideal)) WR (Proc.devRef .tc ReferenceIdeal.main_call56_v0) :=
  by
  have eK := final_unary (KernelIdeal.Tail.writes_ks2 (F := Ideal)) WK 231 (rest := (KernelIdeal.Tail.ks2 (F := Ideal)).drop 232) (wrest := KernelIdeal.Tail.wr_ks2.drop 232) (y := KernelIdeal.main_call53_v0) (x := KernelIdeal.main_c_184) rfl rfl (by decide +kernel) (by decide +kernel)
  have eR := final_unary (ReferenceIdeal.Hand.writes_tlOps2 (F := Ideal)) WR 226 (rest := (ReferenceIdeal.Hand.tlOps2 (F := Ideal)).drop 227) (wrest := ReferenceIdeal.Hand.wr_tlOps2.drop 227) (y := ReferenceIdeal.main_call56_v0) (x := ReferenceIdeal.main_c_190) rfl rfl (by decide +kernel) (by decide +kernel)
  rw [eK, eR, h225 WK WR hP hLin hVal]
  try rfl
theorem h227 : StableHlo.after (KernelIdeal.Tail.ks2 (F := Ideal)) WK (Proc.devRef .tc KernelIdeal.main_call53_c) = StableHlo.after (ReferenceIdeal.Hand.tlOps2 (F := Ideal)) WR (Proc.devRef .tc ReferenceIdeal.main_call56_c) :=
  by
  have eK := final_nullary (KernelIdeal.Tail.writes_ks2 (F := Ideal)) WK 232 (rest := (KernelIdeal.Tail.ks2 (F := Ideal)).drop 233) (wrest := KernelIdeal.Tail.wr_ks2.drop 233) (y := KernelIdeal.main_call53_c) rfl rfl (by decide +kernel)
  have eR := final_nullary (ReferenceIdeal.Hand.writes_tlOps2 (F := Ideal)) WR 227 (rest := (ReferenceIdeal.Hand.tlOps2 (F := Ideal)).drop 228) (wrest := ReferenceIdeal.Hand.wr_tlOps2.drop 228) (y := ReferenceIdeal.main_call56_c) rfl rfl (by decide +kernel)
  rw [eK, eR]
  try rfl
theorem h228 : StableHlo.after (KernelIdeal.Tail.ks2 (F := Ideal)) WK (Proc.devRef .tc KernelIdeal.main_call53_v1) = StableHlo.after (ReferenceIdeal.Hand.tlOps2 (F := Ideal)) WR (Proc.devRef .tc ReferenceIdeal.main_call56_v1) :=
  by
  have eK := final_binary (KernelIdeal.Tail.writes_ks2 (F := Ideal)) WK 233 (rest := (KernelIdeal.Tail.ks2 (F := Ideal)).drop 234) (wrest := KernelIdeal.Tail.wr_ks2.drop 234) (y := KernelIdeal.main_call53_v1) (a := KernelIdeal.main_call53_v0) (b := KernelIdeal.main_call53_c) rfl rfl (by decide +kernel) (by decide +kernel) (by decide +kernel)
  have eR := final_binary (ReferenceIdeal.Hand.writes_tlOps2 (F := Ideal)) WR 228 (rest := (ReferenceIdeal.Hand.tlOps2 (F := Ideal)).drop 229) (wrest := ReferenceIdeal.Hand.wr_tlOps2.drop 229) (y := ReferenceIdeal.main_call56_v1) (a := ReferenceIdeal.main_call56_v0) (b := ReferenceIdeal.main_call56_c) rfl rfl (by decide +kernel) (by decide +kernel) (by decide +kernel)
  rw [eK, eR, h226 WK WR hP hLin hVal, h227 WK WR hP hLin hVal]
  try rfl
theorem h229 : StableHlo.after (KernelIdeal.Tail.ks2 (F := Ideal)) WK (Proc.devRef .tc KernelIdeal.main_call53_c_0) = StableHlo.after (ReferenceIdeal.Hand.tlOps2 (F := Ideal)) WR (Proc.devRef .tc ReferenceIdeal.main_call56_c_0) :=
  by
  have eK := final_nullary (KernelIdeal.Tail.writes_ks2 (F := Ideal)) WK 234 (rest := (KernelIdeal.Tail.ks2 (F := Ideal)).drop 235) (wrest := KernelIdeal.Tail.wr_ks2.drop 235) (y := KernelIdeal.main_call53_c_0) rfl rfl (by decide +kernel)
  have eR := final_nullary (ReferenceIdeal.Hand.writes_tlOps2 (F := Ideal)) WR 229 (rest := (ReferenceIdeal.Hand.tlOps2 (F := Ideal)).drop 230) (wrest := ReferenceIdeal.Hand.wr_tlOps2.drop 230) (y := ReferenceIdeal.main_call56_c_0) rfl rfl (by decide +kernel)
  rw [eK, eR]
  try rfl
theorem h230 : StableHlo.after (KernelIdeal.Tail.ks2 (F := Ideal)) WK (Proc.devRef .tc KernelIdeal.main_call53_v2) = StableHlo.after (ReferenceIdeal.Hand.tlOps2 (F := Ideal)) WR (Proc.devRef .tc ReferenceIdeal.main_call56_v2) :=
  by
  have eK := final_ternary (KernelIdeal.Tail.writes_ks2 (F := Ideal)) WK 235 (rest := (KernelIdeal.Tail.ks2 (F := Ideal)).drop 236) (wrest := KernelIdeal.Tail.wr_ks2.drop 236) (y := KernelIdeal.main_call53_v2) (c := KernelIdeal.main_call53_v1) (a := KernelIdeal.main_call53_c_0) (b := KernelIdeal.main_call53_v0) rfl rfl (by decide +kernel) (by decide +kernel) (by decide +kernel) (by decide +kernel)
  have eR := final_ternary (ReferenceIdeal.Hand.writes_tlOps2 (F := Ideal)) WR 230 (rest := (ReferenceIdeal.Hand.tlOps2 (F := Ideal)).drop 231) (wrest := ReferenceIdeal.Hand.wr_tlOps2.drop 231) (y := ReferenceIdeal.main_call56_v2) (c := ReferenceIdeal.main_call56_v1) (a := ReferenceIdeal.main_call56_c_0) (b := ReferenceIdeal.main_call56_v0) rfl rfl (by decide +kernel) (by decide +kernel) (by decide +kernel) (by decide +kernel)
  rw [eK, eR, h228 WK WR hP hLin hVal, h229 WK WR hP hLin hVal, h226 WK WR hP hLin hVal]
  try rfl
theorem h231 : StableHlo.after (KernelIdeal.Tail.ks2 (F := Ideal)) WK (Proc.devRef .tc KernelIdeal.main_call53_v3) = StableHlo.after (ReferenceIdeal.Hand.tlOps2 (F := Ideal)) WR (Proc.devRef .tc ReferenceIdeal.main_call56_v3) :=
  by
  have eK := final_unary (KernelIdeal.Tail.writes_ks2 (F := Ideal)) WK 236 (rest := (KernelIdeal.Tail.ks2 (F := Ideal)).drop 237) (wrest := KernelIdeal.Tail.wr_ks2.drop 237) (y := KernelIdeal.main_call53_v3) (x := KernelIdeal.main_call53_call0.v0.ref) rfl rfl (by decide +kernel) (by decide +kernel)
  have eR := final_unary (ReferenceIdeal.Hand.writes_tlOps2 (F := Ideal)) WR 231 (rest := (ReferenceIdeal.Hand.tlOps2 (F := Ideal)).drop 232) (wrest := ReferenceIdeal.Hand.wr_tlOps2.drop 232) (y := ReferenceIdeal.main_call56_v3) (x := ReferenceIdeal.main_call56_v2) rfl rfl (by decide +kernel) (by decide +kernel)
  rw [eK, eR, h230 WK WR hP hLin hVal]
  try rfl
theorem h232 : StableHlo.after (KernelIdeal.Tail.ks2 (F := Ideal)) WK (Proc.devRef .tc KernelIdeal.main_call53_v4) = StableHlo.after (ReferenceIdeal.Hand.tlOps2 (F := Ideal)) WR (Proc.devRef .tc ReferenceIdeal.main_call56_v4) :=
  by
  have eK := final_binary (KernelIdeal.Tail.writes_ks2 (F := Ideal)) WK 237 (rest := (KernelIdeal.Tail.ks2 (F := Ideal)).drop 238) (wrest := KernelIdeal.Tail.wr_ks2.drop 238) (y := KernelIdeal.main_call53_v4) (a := KernelIdeal.main_v463) (b := KernelIdeal.main_call53_v3) rfl rfl (by decide +kernel) (by decide +kernel) (by decide +kernel)
  have eR := final_binary (ReferenceIdeal.Hand.writes_tlOps2 (F := Ideal)) WR 232 (rest := (ReferenceIdeal.Hand.tlOps2 (F := Ideal)).drop 233) (wrest := ReferenceIdeal.Hand.wr_tlOps2.drop 233) (y := ReferenceIdeal.main_call56_v4) (a := ReferenceIdeal.main_v515) (b := ReferenceIdeal.main_call56_v3) rfl rfl (by decide +kernel) (by decide +kernel) (by decide +kernel)
  rw [eK, eR, h224 WK WR hP hLin hVal, h231 WK WR hP hLin hVal]
  try rfl
theorem h233 : StableHlo.after (KernelIdeal.Tail.ks2 (F := Ideal)) WK (Proc.devRef .tc KernelIdeal.main_call53_c_1) = StableHlo.after (ReferenceIdeal.Hand.tlOps2 (F := Ideal)) WR (Proc.devRef .tc ReferenceIdeal.main_call56_c_1) :=
  by
  have eK := final_nullary (KernelIdeal.Tail.writes_ks2 (F := Ideal)) WK 238 (rest := (KernelIdeal.Tail.ks2 (F := Ideal)).drop 239) (wrest := KernelIdeal.Tail.wr_ks2.drop 239) (y := KernelIdeal.main_call53_c_1) rfl rfl (by decide +kernel)
  have eR := final_nullary (ReferenceIdeal.Hand.writes_tlOps2 (F := Ideal)) WR 233 (rest := (ReferenceIdeal.Hand.tlOps2 (F := Ideal)).drop 234) (wrest := ReferenceIdeal.Hand.wr_tlOps2.drop 234) (y := ReferenceIdeal.main_call56_c_1) rfl rfl (by decide +kernel)
  rw [eK, eR]
  try rfl
theorem h234 : StableHlo.after (KernelIdeal.Tail.ks2 (F := Ideal)) WK (Proc.devRef .tc KernelIdeal.main_call53_v5) = StableHlo.after (ReferenceIdeal.Hand.tlOps2 (F := Ideal)) WR (Proc.devRef .tc ReferenceIdeal.main_call56_v5) :=
  by
  have eK := final_unary (KernelIdeal.Tail.writes_ks2 (F := Ideal)) WK 239 (rest := (KernelIdeal.Tail.ks2 (F := Ideal)).drop 240) (wrest := KernelIdeal.Tail.wr_ks2.drop 240) (y := KernelIdeal.main_call53_v5) (x := KernelIdeal.main_call53_c_1) rfl rfl (by decide +kernel) (by decide +kernel)
  have eR := final_unary (ReferenceIdeal.Hand.writes_tlOps2 (F := Ideal)) WR 234 (rest := (ReferenceIdeal.Hand.tlOps2 (F := Ideal)).drop 235) (wrest := ReferenceIdeal.Hand.wr_tlOps2.drop 235) (y := ReferenceIdeal.main_call56_v5) (x := ReferenceIdeal.main_call56_c_1) rfl rfl (by decide +kernel) (by decide +kernel)
  rw [eK, eR, h233 WK WR hP hLin hVal]
  try rfl
theorem h235 : StableHlo.after (KernelIdeal.Tail.ks2 (F := Ideal)) WK (Proc.devRef .tc KernelIdeal.main_call53_v6) = StableHlo.after (ReferenceIdeal.Hand.tlOps2 (F := Ideal)) WR (Proc.devRef .tc ReferenceIdeal.main_call56_v6) :=
  by
  have eK := final_binary (KernelIdeal.Tail.writes_ks2 (F := Ideal)) WK 240 (rest := (KernelIdeal.Tail.ks2 (F := Ideal)).drop 241) (wrest := KernelIdeal.Tail.wr_ks2.drop 241) (y := KernelIdeal.main_call53_v6) (a := KernelIdeal.main_call53_v4) (b := KernelIdeal.main_call53_v5) rfl rfl (by decide +kernel) (by decide +kernel) (by decide +kernel)
  have eR := final_binary (ReferenceIdeal.Hand.writes_tlOps2 (F := Ideal)) WR 235 (rest := (ReferenceIdeal.Hand.tlOps2 (F := Ideal)).drop 236) (wrest := ReferenceIdeal.Hand.wr_tlOps2.drop 236) (y := ReferenceIdeal.main_call56_v6) (a := ReferenceIdeal.main_call56_v4) (b := ReferenceIdeal.main_call56_v5) rfl rfl (by decide +kernel) (by decide +kernel) (by decide +kernel)
  rw [eK, eR, h232 WK WR hP hLin hVal, h234 WK WR hP hLin hVal]
  try rfl
theorem h236 : StableHlo.after (KernelIdeal.Tail.ks2 (F := Ideal)) WK (Proc.devRef .tc KernelIdeal.main_call53_c_2) = StableHlo.after (ReferenceIdeal.Hand.tlOps2 (F := Ideal)) WR (Proc.devRef .tc ReferenceIdeal.main_call56_c_2) :=
  by
  have eK := final_nullary (KernelIdeal.Tail.writes_ks2 (F := Ideal)) WK 241 (rest := (KernelIdeal.Tail.ks2 (F := Ideal)).drop 242) (wrest := KernelIdeal.Tail.wr_ks2.drop 242) (y := KernelIdeal.main_call53_c_2) rfl rfl (by decide +kernel)
  have eR := final_nullary (ReferenceIdeal.Hand.writes_tlOps2 (F := Ideal)) WR 236 (rest := (ReferenceIdeal.Hand.tlOps2 (F := Ideal)).drop 237) (wrest := ReferenceIdeal.Hand.wr_tlOps2.drop 237) (y := ReferenceIdeal.main_call56_c_2) rfl rfl (by decide +kernel)
  rw [eK, eR]
  try rfl
theorem h237 : StableHlo.after (KernelIdeal.Tail.ks2 (F := Ideal)) WK (Proc.devRef .tc KernelIdeal.main_call53_v7) = StableHlo.after (ReferenceIdeal.Hand.tlOps2 (F := Ideal)) WR (Proc.devRef .tc ReferenceIdeal.main_call56_v7) :=
  by
  have eK := final_unary (KernelIdeal.Tail.writes_ks2 (F := Ideal)) WK 242 (rest := (KernelIdeal.Tail.ks2 (F := Ideal)).drop 243) (wrest := KernelIdeal.Tail.wr_ks2.drop 243) (y := KernelIdeal.main_call53_v7) (x := KernelIdeal.main_call53_c_2) rfl rfl (by decide +kernel) (by decide +kernel)
  have eR := final_unary (ReferenceIdeal.Hand.writes_tlOps2 (F := Ideal)) WR 237 (rest := (ReferenceIdeal.Hand.tlOps2 (F := Ideal)).drop 238) (wrest := ReferenceIdeal.Hand.wr_tlOps2.drop 238) (y := ReferenceIdeal.main_call56_v7) (x := ReferenceIdeal.main_call56_c_2) rfl rfl (by decide +kernel) (by decide +kernel)
  rw [eK, eR, h236 WK WR hP hLin hVal]
  try rfl
theorem h238 : StableHlo.after (KernelIdeal.Tail.ks2 (F := Ideal)) WK (Proc.devRef .tc KernelIdeal.main_call53_v8) = StableHlo.after (ReferenceIdeal.Hand.tlOps2 (F := Ideal)) WR (Proc.devRef .tc ReferenceIdeal.main_call56_v8) :=
  by
  have eK := final_binary (KernelIdeal.Tail.writes_ks2 (F := Ideal)) WK 243 (rest := (KernelIdeal.Tail.ks2 (F := Ideal)).drop 244) (wrest := KernelIdeal.Tail.wr_ks2.drop 244) (y := KernelIdeal.main_call53_v8) (a := KernelIdeal.main_call53_v4) (b := KernelIdeal.main_call53_v7) rfl rfl (by decide +kernel) (by decide +kernel) (by decide +kernel)
  have eR := final_binary (ReferenceIdeal.Hand.writes_tlOps2 (F := Ideal)) WR 238 (rest := (ReferenceIdeal.Hand.tlOps2 (F := Ideal)).drop 239) (wrest := ReferenceIdeal.Hand.wr_tlOps2.drop 239) (y := ReferenceIdeal.main_call56_v8) (a := ReferenceIdeal.main_call56_v4) (b := ReferenceIdeal.main_call56_v7) rfl rfl (by decide +kernel) (by decide +kernel) (by decide +kernel)
  rw [eK, eR, h232 WK WR hP hLin hVal, h237 WK WR hP hLin hVal]
  try rfl
theorem h239 : StableHlo.after (KernelIdeal.Tail.ks2 (F := Ideal)) WK (Proc.devRef .tc KernelIdeal.main_call53_c_3) = StableHlo.after (ReferenceIdeal.Hand.tlOps2 (F := Ideal)) WR (Proc.devRef .tc ReferenceIdeal.main_call56_c_3) :=
  by
  have eK := final_nullary (KernelIdeal.Tail.writes_ks2 (F := Ideal)) WK 244 (rest := (KernelIdeal.Tail.ks2 (F := Ideal)).drop 245) (wrest := KernelIdeal.Tail.wr_ks2.drop 245) (y := KernelIdeal.main_call53_c_3) rfl rfl (by decide +kernel)
  have eR := final_nullary (ReferenceIdeal.Hand.writes_tlOps2 (F := Ideal)) WR 239 (rest := (ReferenceIdeal.Hand.tlOps2 (F := Ideal)).drop 240) (wrest := ReferenceIdeal.Hand.wr_tlOps2.drop 240) (y := ReferenceIdeal.main_call56_c_3) rfl rfl (by decide +kernel)
  rw [eK, eR]
  try rfl
theorem h240 : StableHlo.after (KernelIdeal.Tail.ks2 (F := Ideal)) WK (Proc.devRef .tc KernelIdeal.main_call53_v9) = StableHlo.after (ReferenceIdeal.Hand.tlOps2 (F := Ideal)) WR (Proc.devRef .tc ReferenceIdeal.main_call56_v9) :=
  by
  have eK := final_binary (KernelIdeal.Tail.writes_ks2 (F := Ideal)) WK 245 (rest := (KernelIdeal.Tail.ks2 (F := Ideal)).drop 246) (wrest := KernelIdeal.Tail.wr_ks2.drop 246) (y := KernelIdeal.main_call53_v9) (a := KernelIdeal.main_call53_call0.v0.ref) (b := KernelIdeal.main_call53_c_3) rfl rfl (by decide +kernel) (by decide +kernel) (by decide +kernel)
  have eR := final_binary (ReferenceIdeal.Hand.writes_tlOps2 (F := Ideal)) WR 240 (rest := (ReferenceIdeal.Hand.tlOps2 (F := Ideal)).drop 241) (wrest := ReferenceIdeal.Hand.wr_tlOps2.drop 241) (y := ReferenceIdeal.main_call56_v9) (a := ReferenceIdeal.main_call56_v2) (b := ReferenceIdeal.main_call56_c_3) rfl rfl (by decide +kernel) (by decide +kernel) (by decide +kernel)
  rw [eK, eR, h230 WK WR hP hLin hVal, h239 WK WR hP hLin hVal]
  try rfl
theorem h241 : StableHlo.after (KernelIdeal.Tail.ks2 (F := Ideal)) WK (Proc.devRef .tc KernelIdeal.main_call53_v10) = StableHlo.after (ReferenceIdeal.Hand.tlOps2 (F := Ideal)) WR (Proc.devRef .tc ReferenceIdeal.main_call56_v10) :=
  by
  have eK := final_unary (KernelIdeal.Tail.writes_ks2 (F := Ideal)) WK 246 (rest := (KernelIdeal.Tail.ks2 (F := Ideal)).drop 247) (wrest := KernelIdeal.Tail.wr_ks2.drop 247) (y := KernelIdeal.main_call53_v10) (x := KernelIdeal.main_call53_v9) rfl rfl (by decide +kernel) (by decide +kernel)
  have eR := final_unary (ReferenceIdeal.Hand.writes_tlOps2 (F := Ideal)) WR 241 (rest := (ReferenceIdeal.Hand.tlOps2 (F := Ideal)).drop 242) (wrest := ReferenceIdeal.Hand.wr_tlOps2.drop 242) (y := ReferenceIdeal.main_call56_v10) (x := ReferenceIdeal.main_call56_v9) rfl rfl (by decide +kernel) (by decide +kernel)
  rw [eK, eR, h240 WK WR hP hLin hVal]
  try rfl
theorem h242 : StableHlo.after (KernelIdeal.Tail.ks2 (F := Ideal)) WK (Proc.devRef .tc KernelIdeal.main_call53_v11) = StableHlo.after (ReferenceIdeal.Hand.tlOps2 (F := Ideal)) WR (Proc.devRef .tc ReferenceIdeal.main_call56_v11) :=
  by
  have eK := final_binary (KernelIdeal.Tail.writes_ks2 (F := Ideal)) WK 247 (rest := (KernelIdeal.Tail.ks2 (F := Ideal)).drop 248) (wrest := KernelIdeal.Tail.wr_ks2.drop 248) (y := KernelIdeal.main_call53_v11) (a := KernelIdeal.main_call53_v8) (b := KernelIdeal.main_call53_v10) rfl rfl (by decide +kernel) (by decide +kernel) (by decide +kernel)
  have eR := final_binary (ReferenceIdeal.Hand.writes_tlOps2 (F := Ideal)) WR 242 (rest := (ReferenceIdeal.Hand.tlOps2 (F := Ideal)).drop 243) (wrest := ReferenceIdeal.Hand.wr_tlOps2.drop 243) (y := ReferenceIdeal.main_call56_v11) (a := ReferenceIdeal.main_call56_v8) (b := ReferenceIdeal.main_call56_v10) rfl rfl (by decide +kernel) (by decide +kernel) (by decide +kernel)
  rw [eK, eR, h238 WK WR hP hLin hVal, h241 WK WR hP hLin hVal]
  try rfl
theorem h243 : StableHlo.after (KernelIdeal.Tail.ks2 (F := Ideal)) WK (Proc.devRef .tc KernelIdeal.main_call53_v12) = StableHlo.after (ReferenceIdeal.Hand.tlOps2 (F := Ideal)) WR (Proc.devRef .tc ReferenceIdeal.main_call56_v12) :=
  by
  have eK := final_binary (KernelIdeal.Tail.writes_ks2 (F := Ideal)) WK 248 (rest := (KernelIdeal.Tail.ks2 (F := Ideal)).drop 249) (wrest := KernelIdeal.Tail.wr_ks2.drop 249) (y := KernelIdeal.main_call53_v12) (a := KernelIdeal.main_call53_v11) (b := KernelIdeal.main_call53_v6) rfl rfl (by decide +kernel) (by decide +kernel) (by decide +kernel)
  have eR := final_binary (ReferenceIdeal.Hand.writes_tlOps2 (F := Ideal)) WR 243 (rest := (ReferenceIdeal.Hand.tlOps2 (F := Ideal)).drop 244) (wrest := ReferenceIdeal.Hand.wr_tlOps2.drop 244) (y := ReferenceIdeal.main_call56_v12) (a := ReferenceIdeal.main_call56_v11) (b := ReferenceIdeal.main_call56_v6) rfl rfl (by decide +kernel) (by decide +kernel) (by decide +kernel)
  rw [eK, eR, h242 WK WR hP hLin hVal, h235 WK WR hP hLin hVal]
  try rfl
theorem h244 : StableHlo.after (KernelIdeal.Tail.ks2 (F := Ideal)) WK (Proc.devRef .tc KernelIdeal.main_call53_v13) = StableHlo.after (ReferenceIdeal.Hand.tlOps2 (F := Ideal)) WR (Proc.devRef .tc ReferenceIdeal.main_call56_v13) :=
  by
  have eK := final_unary (KernelIdeal.Tail.writes_ks2 (F := Ideal)) WK 249 (rest := (KernelIdeal.Tail.ks2 (F := Ideal)).drop 250) (wrest := KernelIdeal.Tail.wr_ks2.drop 250) (y := KernelIdeal.main_call53_v13) (x := KernelIdeal.main_call53_call0.v0.ref) rfl rfl (by decide +kernel) (by decide +kernel)
  have eR := final_unary (ReferenceIdeal.Hand.writes_tlOps2 (F := Ideal)) WR 244 (rest := (ReferenceIdeal.Hand.tlOps2 (F := Ideal)).drop 245) (wrest := ReferenceIdeal.Hand.wr_tlOps2.drop 245) (y := ReferenceIdeal.main_call56_v13) (x := ReferenceIdeal.main_call56_v2) rfl rfl (by decide +kernel) (by decide +kernel)
  rw [eK, eR, h230 WK WR hP hLin hVal]
  try rfl
theorem h245 : StableHlo.after (KernelIdeal.Tail.ks2 (F := Ideal)) WK (Proc.devRef .tc KernelIdeal.main_call53_v14) = StableHlo.after (ReferenceIdeal.Hand.tlOps2 (F := Ideal)) WR (Proc.devRef .tc ReferenceIdeal.main_call56_v14) :=
  by
  have eK := final_binary (KernelIdeal.Tail.writes_ks2 (F := Ideal)) WK 250 (rest := (KernelIdeal.Tail.ks2 (F := Ideal)).drop 251) (wrest := KernelIdeal.Tail.wr_ks2.drop 251) (y := KernelIdeal.main_call53_v14) (a := KernelIdeal.main_call53_v4) (b := KernelIdeal.main_call53_v13) rfl rfl (by decide +kernel) (by decide +kernel) (by decide +kernel)
  have eR := final_binary (ReferenceIdeal.Hand.writes_tlOps2 (F := Ideal)) WR 245 (rest := (ReferenceIdeal.Hand.tlOps2 (F := Ideal)).drop 246) (wrest := ReferenceIdeal.Hand.wr_tlOps2.drop 246) (y := ReferenceIdeal.main_call56_v14) (a := ReferenceIdeal.main_call56_v4) (b := ReferenceIdeal.main_call56_v13) rfl rfl (by decide +kernel) (by decide +kernel) (by decide +kernel)
  rw [eK, eR, h232 WK WR hP hLin hVal, h244 WK WR hP hLin hVal]
  try rfl
theorem h246 : StableHlo.after (KernelIdeal.Tail.ks2 (F := Ideal)) WK (Proc.devRef .tc KernelIdeal.main_v464) = StableHlo.after (ReferenceIdeal.Hand.tlOps2 (F := Ideal)) WR (Proc.devRef .tc ReferenceIdeal.main_v516) :=
  by
  have eK := final_ternary (KernelIdeal.Tail.writes_ks2 (F := Ideal)) WK 251 (rest := (KernelIdeal.Tail.ks2 (F := Ideal)).drop 252) (wrest := KernelIdeal.Tail.wr_ks2.drop 252) (y := KernelIdeal.main_v464) (c := KernelIdeal.main_call53_v12) (a := KernelIdeal.main_call53_v14) (b := KernelIdeal.main_call53_v4) rfl rfl (by decide +kernel) (by decide +kernel) (by decide +kernel) (by decide +kernel)
  have eR := final_ternary (ReferenceIdeal.Hand.writes_tlOps2 (F := Ideal)) WR 246 (rest := (ReferenceIdeal.Hand.tlOps2 (F := Ideal)).drop 247) (wrest := ReferenceIdeal.Hand.wr_tlOps2.drop 247) (y := ReferenceIdeal.main_v516) (c := ReferenceIdeal.main_call56_v12) (a := ReferenceIdeal.main_call56_v14) (b := ReferenceIdeal.main_call56_v4) rfl rfl (by decide +kernel) (by decide +kernel) (by decide +kernel) (by decide +kernel)
  rw [eK, eR, h243 WK WR hP hLin hVal, h245 WK WR hP hLin hVal, h232 WK WR hP hLin hVal]
  try rfl
theorem h247 : StableHlo.after (KernelIdeal.Tail.ks2 (F := Ideal)) WK (Proc.devRef .tc KernelIdeal.main_c_185) = StableHlo.after (ReferenceIdeal.Hand.tlOps2 (F := Ideal)) WR (Proc.devRef .tc ReferenceIdeal.main_c_191) :=
  by
  have eK := final_nullary (KernelIdeal.Tail.writes_ks2 (F := Ideal)) WK 252 (rest := (KernelIdeal.Tail.ks2 (F := Ideal)).drop 253) (wrest := KernelIdeal.Tail.wr_ks2.drop 253) (y := KernelIdeal.main_c_185) rfl rfl (by decide +kernel)
  have eR := final_nullary (ReferenceIdeal.Hand.writes_tlOps2 (F := Ideal)) WR 247 (rest := (ReferenceIdeal.Hand.tlOps2 (F := Ideal)).drop 248) (wrest := ReferenceIdeal.Hand.wr_tlOps2.drop 248) (y := ReferenceIdeal.main_c_191) rfl rfl (by decide +kernel)
  rw [eK, eR]
  try rfl
theorem h248 : StableHlo.after (KernelIdeal.Tail.ks2 (F := Ideal)) WK (Proc.devRef .tc KernelIdeal.main_call54_v0) = StableHlo.after (ReferenceIdeal.Hand.tlOps2 (F := Ideal)) WR (Proc.devRef .tc ReferenceIdeal.main_call57_v0) :=
  by
  have eK := final_unary (KernelIdeal.Tail.writes_ks2 (F := Ideal)) WK 253 (rest := (KernelIdeal.Tail.ks2 (F := Ideal)).drop 254) (wrest := KernelIdeal.Tail.wr_ks2.drop 254) (y := KernelIdeal.main_call54_v0) (x := KernelIdeal.main_c_185) rfl rfl (by decide +kernel) (by decide +kernel)
  have eR := final_unary (ReferenceIdeal.Hand.writes_tlOps2 (F := Ideal)) WR 248 (rest := (ReferenceIdeal.Hand.tlOps2 (F := Ideal)).drop 249) (wrest := ReferenceIdeal.Hand.wr_tlOps2.drop 249) (y := ReferenceIdeal.main_call57_v0) (x := ReferenceIdeal.main_c_191) rfl rfl (by decide +kernel) (by decide +kernel)
  rw [eK, eR, h247 WK WR hP hLin hVal]
  try rfl
theorem h249 : StableHlo.after (KernelIdeal.Tail.ks2 (F := Ideal)) WK (Proc.devRef .tc KernelIdeal.main_call54_v1) = StableHlo.after (ReferenceIdeal.Hand.tlOps2 (F := Ideal)) WR (Proc.devRef .tc ReferenceIdeal.main_call57_v1) :=
  by
  have eK := final_unary (KernelIdeal.Tail.writes_ks2 (F := Ideal)) WK 254 (rest := (KernelIdeal.Tail.ks2 (F := Ideal)).drop 255) (wrest := KernelIdeal.Tail.wr_ks2.drop 255) (y := KernelIdeal.main_call54_v1) (x := KernelIdeal.main_call54_v0) rfl rfl (by decide +kernel) (by decide +kernel)
  have eR := final_unary (ReferenceIdeal.Hand.writes_tlOps2 (F := Ideal)) WR 249 (rest := (ReferenceIdeal.Hand.tlOps2 (F := Ideal)).drop 250) (wrest := ReferenceIdeal.Hand.wr_tlOps2.drop 250) (y := ReferenceIdeal.main_call57_v1) (x := ReferenceIdeal.main_call57_v0) rfl rfl (by decide +kernel) (by decide +kernel)
  rw [eK, eR, h248 WK WR hP hLin hVal]
  try rfl
theorem h250 : StableHlo.after (KernelIdeal.Tail.ks2 (F := Ideal)) WK (Proc.devRef .tc KernelIdeal.main_v465) = StableHlo.after (ReferenceIdeal.Hand.tlOps2 (F := Ideal)) WR (Proc.devRef .tc ReferenceIdeal.main_v517) :=
  by
  have eK := final_ternary (KernelIdeal.Tail.writes_ks2 (F := Ideal)) WK 255 (rest := (KernelIdeal.Tail.ks2 (F := Ideal)).drop 256) (wrest := KernelIdeal.Tail.wr_ks2.drop 256) (y := KernelIdeal.main_v465) (c := KernelIdeal.main_v462) (a := KernelIdeal.main_v464) (b := KernelIdeal.main_call54_v1) rfl rfl (by decide +kernel) (by decide +kernel) (by decide +kernel) (by decide +kernel)
  have eR := final_ternary (ReferenceIdeal.Hand.writes_tlOps2 (F := Ideal)) WR 250 (rest := (ReferenceIdeal.Hand.tlOps2 (F := Ideal)).drop 251) (wrest := ReferenceIdeal.Hand.wr_tlOps2.drop 251) (y := ReferenceIdeal.main_v517) (c := ReferenceIdeal.main_v514) (a := ReferenceIdeal.main_v516) (b := ReferenceIdeal.main_call57_v1) rfl rfl (by decide +kernel) (by decide +kernel) (by decide +kernel) (by decide +kernel)
  rw [eK, eR, h206 WK WR hP hLin hVal, h246 WK WR hP hLin hVal, h249 WK WR hP hLin hVal]
  try rfl
theorem h251 : StableHlo.after (KernelIdeal.Tail.ks2 (F := Ideal)) WK (Proc.devRef .tc KernelIdeal.main_c_186) = StableHlo.after (ReferenceIdeal.Hand.tlOps2 (F := Ideal)) WR (Proc.devRef .tc ReferenceIdeal.main_c_192) :=
  by
  have eK := final_nullary (KernelIdeal.Tail.writes_ks2 (F := Ideal)) WK 256 (rest := (KernelIdeal.Tail.ks2 (F := Ideal)).drop 257) (wrest := KernelIdeal.Tail.wr_ks2.drop 257) (y := KernelIdeal.main_c_186) rfl rfl (by decide +kernel)
  have eR := final_nullary (ReferenceIdeal.Hand.writes_tlOps2 (F := Ideal)) WR 251 (rest := (ReferenceIdeal.Hand.tlOps2 (F := Ideal)).drop 252) (wrest := ReferenceIdeal.Hand.wr_tlOps2.drop 252) (y := ReferenceIdeal.main_c_192) rfl rfl (by decide +kernel)
  rw [eK, eR]
  try rfl
theorem h252 : StableHlo.after (KernelIdeal.Tail.ks2 (F := Ideal)) WK (Proc.devRef .tc KernelIdeal.main_v466) = StableHlo.after (ReferenceIdeal.Hand.tlOps2 (F := Ideal)) WR (Proc.devRef .tc ReferenceIdeal.main_v518) :=
  by
  have eK := final_unary (KernelIdeal.Tail.writes_ks2 (F := Ideal)) WK 257 (rest := (KernelIdeal.Tail.ks2 (F := Ideal)).drop 258) (wrest := KernelIdeal.Tail.wr_ks2.drop 258) (y := KernelIdeal.main_v466) (x := KernelIdeal.main_c_186) rfl rfl (by decide +kernel) (by decide +kernel)
  have eR := final_unary (ReferenceIdeal.Hand.writes_tlOps2 (F := Ideal)) WR 252 (rest := (ReferenceIdeal.Hand.tlOps2 (F := Ideal)).drop 253) (wrest := ReferenceIdeal.Hand.wr_tlOps2.drop 253) (y := ReferenceIdeal.main_v518) (x := ReferenceIdeal.main_c_192) rfl rfl (by decide +kernel) (by decide +kernel)
  rw [eK, eR, h251 WK WR hP hLin hVal]
  try rfl
theorem h253 : StableHlo.after (KernelIdeal.Tail.ks2 (F := Ideal)) WK (Proc.devRef .tc KernelIdeal.main_v467) = StableHlo.after (ReferenceIdeal.Hand.tlOps2 (F := Ideal)) WR (Proc.devRef .tc ReferenceIdeal.main_v519) :=
  by
  have eK := final_binary (KernelIdeal.Tail.writes_ks2 (F := Ideal)) WK 258 (rest := (KernelIdeal.Tail.ks2 (F := Ideal)).drop 259) (wrest := KernelIdeal.Tail.wr_ks2.drop 259) (y := KernelIdeal.main_v467) (a := KernelIdeal.main_v456) (b := KernelIdeal.main_v466) rfl rfl (by decide +kernel) (by decide +kernel) (by decide +kernel)
  have eR := final_binary (ReferenceIdeal.Hand.writes_tlOps2 (F := Ideal)) WR 253 (rest := (ReferenceIdeal.Hand.tlOps2 (F := Ideal)).drop 254) (wrest := ReferenceIdeal.Hand.wr_tlOps2.drop 254) (y := ReferenceIdeal.main_v519) (a := ReferenceIdeal.main_v508) (b := ReferenceIdeal.main_v518) rfl rfl (by decide +kernel) (by decide +kernel) (by decide +kernel)
  rw [eK, eR, h178 WK WR hP hLin hVal, h252 WK WR hP hLin hVal]
  try rfl
theorem h254 : StableHlo.after (KernelIdeal.Tail.ks2 (F := Ideal)) WK (Proc.devRef .tc KernelIdeal.main_c_187) = StableHlo.after (ReferenceIdeal.Hand.tlOps2 (F := Ideal)) WR (Proc.devRef .tc ReferenceIdeal.main_c_193) :=
  by
  have eK := final_nullary (KernelIdeal.Tail.writes_ks2 (F := Ideal)) WK 259 (rest := (KernelIdeal.Tail.ks2 (F := Ideal)).drop 260) (wrest := KernelIdeal.Tail.wr_ks2.drop 260) (y := KernelIdeal.main_c_187) rfl rfl (by decide +kernel)
  have eR := final_nullary (ReferenceIdeal.Hand.writes_tlOps2 (F := Ideal)) WR 254 (rest := (ReferenceIdeal.Hand.tlOps2 (F := Ideal)).drop 255) (wrest := ReferenceIdeal.Hand.wr_tlOps2.drop 255) (y := ReferenceIdeal.main_c_193) rfl rfl (by decide +kernel)
  rw [eK, eR]
  try rfl
theorem h255 : StableHlo.after (KernelIdeal.Tail.ks2 (F := Ideal)) WK (Proc.devRef .tc KernelIdeal.main_call55_v0) = StableHlo.after (ReferenceIdeal.Hand.tlOps2 (F := Ideal)) WR (Proc.devRef .tc ReferenceIdeal.main_call58_v0) :=
  by
  have eK := final_unary (KernelIdeal.Tail.writes_ks2 (F := Ideal)) WK 260 (rest := (KernelIdeal.Tail.ks2 (F := Ideal)).drop 261) (wrest := KernelIdeal.Tail.wr_ks2.drop 261) (y := KernelIdeal.main_call55_v0) (x := KernelIdeal.main_c_187) rfl rfl (by decide +kernel) (by decide +kernel)
  have eR := final_unary (ReferenceIdeal.Hand.writes_tlOps2 (F := Ideal)) WR 255 (rest := (ReferenceIdeal.Hand.tlOps2 (F := Ideal)).drop 256) (wrest := ReferenceIdeal.Hand.wr_tlOps2.drop 256) (y := ReferenceIdeal.main_call58_v0) (x := ReferenceIdeal.main_c_193) rfl rfl (by decide +kernel) (by decide +kernel)
  rw [eK, eR, h254 WK WR hP hLin hVal]
  try rfl
theorem h256 : StableHlo.after (KernelIdeal.Tail.ks2 (F := Ideal)) WK (Proc.devRef .tc KernelIdeal.main_call55_c) = StableHlo.after (ReferenceIdeal.Hand.tlOps2 (F := Ideal)) WR (Proc.devRef .tc ReferenceIdeal.main_call58_c) :=
  by
  have eK := final_nullary (KernelIdeal.Tail.writes_ks2 (F := Ideal)) WK 261 (rest := (KernelIdeal.Tail.ks2 (F := Ideal)).drop 262) (wrest := KernelIdeal.Tail.wr_ks2.drop 262) (y := KernelIdeal.main_call55_c) rfl rfl (by decide +kernel)
  have eR := final_nullary (ReferenceIdeal.Hand.writes_tlOps2 (F := Ideal)) WR 256 (rest := (ReferenceIdeal.Hand.tlOps2 (F := Ideal)).drop 257) (wrest := ReferenceIdeal.Hand.wr_tlOps2.drop 257) (y := ReferenceIdeal.main_call58_c) rfl rfl (by decide +kernel)
  rw [eK, eR]
  try rfl
theorem h257 : StableHlo.after (KernelIdeal.Tail.ks2 (F := Ideal)) WK (Proc.devRef .tc KernelIdeal.main_call55_v1) = StableHlo.after (ReferenceIdeal.Hand.tlOps2 (F := Ideal)) WR (Proc.devRef .tc ReferenceIdeal.main_call58_v1) :=
  by
  have eK := final_binary (KernelIdeal.Tail.writes_ks2 (F := Ideal)) WK 262 (rest := (KernelIdeal.Tail.ks2 (F := Ideal)).drop 263) (wrest := KernelIdeal.Tail.wr_ks2.drop 263) (y := KernelIdeal.main_call55_v1) (a := KernelIdeal.main_call55_v0) (b := KernelIdeal.main_call55_c) rfl rfl (by decide +kernel) (by decide +kernel) (by decide +kernel)
  have eR := final_binary (ReferenceIdeal.Hand.writes_tlOps2 (F := Ideal)) WR 257 (rest := (ReferenceIdeal.Hand.tlOps2 (F := Ideal)).drop 258) (wrest := ReferenceIdeal.Hand.wr_tlOps2.drop 258) (y := ReferenceIdeal.main_call58_v1) (a := ReferenceIdeal.main_call58_v0) (b := ReferenceIdeal.main_call58_c) rfl rfl (by decide +kernel) (by decide +kernel) (by decide +kernel)
  rw [eK, eR, h255 WK WR hP hLin hVal, h256 WK WR hP hLin hVal]
  try rfl
theorem h258 : StableHlo.after (KernelIdeal.Tail.ks2 (F := Ideal)) WK (Proc.devRef .tc KernelIdeal.main_call55_c_0) = StableHlo.after (ReferenceIdeal.Hand.tlOps2 (F := Ideal)) WR (Proc.devRef .tc ReferenceIdeal.main_call58_c_0) :=
  by
  have eK := final_nullary (KernelIdeal.Tail.writes_ks2 (F := Ideal)) WK 263 (rest := (KernelIdeal.Tail.ks2 (F := Ideal)).drop 264) (wrest := KernelIdeal.Tail.wr_ks2.drop 264) (y := KernelIdeal.main_call55_c_0) rfl rfl (by decide +kernel)
  have eR := final_nullary (ReferenceIdeal.Hand.writes_tlOps2 (F := Ideal)) WR 258 (rest := (ReferenceIdeal.Hand.tlOps2 (F := Ideal)).drop 259) (wrest := ReferenceIdeal.Hand.wr_tlOps2.drop 259) (y := ReferenceIdeal.main_call58_c_0) rfl rfl (by decide +kernel)
  rw [eK, eR]
  try rfl
theorem h259 : StableHlo.after (KernelIdeal.Tail.ks2 (F := Ideal)) WK (Proc.devRef .tc KernelIdeal.main_call55_v2) = StableHlo.after (ReferenceIdeal.Hand.tlOps2 (F := Ideal)) WR (Proc.devRef .tc ReferenceIdeal.main_call58_v2) :=
  by
  have eK := final_ternary (KernelIdeal.Tail.writes_ks2 (F := Ideal)) WK 264 (rest := (KernelIdeal.Tail.ks2 (F := Ideal)).drop 265) (wrest := KernelIdeal.Tail.wr_ks2.drop 265) (y := KernelIdeal.main_call55_v2) (c := KernelIdeal.main_call55_v1) (a := KernelIdeal.main_call55_c_0) (b := KernelIdeal.main_call55_v0) rfl rfl (by decide +kernel) (by decide +kernel) (by decide +kernel) (by decide +kernel)
  have eR := final_ternary (ReferenceIdeal.Hand.writes_tlOps2 (F := Ideal)) WR 259 (rest := (ReferenceIdeal.Hand.tlOps2 (F := Ideal)).drop 260) (wrest := ReferenceIdeal.Hand.wr_tlOps2.drop 260) (y := ReferenceIdeal.main_call58_v2) (c := ReferenceIdeal.main_call58_v1) (a := ReferenceIdeal.main_call58_c_0) (b := ReferenceIdeal.main_call58_v0) rfl rfl (by decide +kernel) (by decide +kernel) (by decide +kernel) (by decide +kernel)
  rw [eK, eR, h257 WK WR hP hLin hVal, h258 WK WR hP hLin hVal, h255 WK WR hP hLin hVal]
  try rfl
theorem h260 : StableHlo.after (KernelIdeal.Tail.ks2 (F := Ideal)) WK (Proc.devRef .tc KernelIdeal.main_call55_v3) = StableHlo.after (ReferenceIdeal.Hand.tlOps2 (F := Ideal)) WR (Proc.devRef .tc ReferenceIdeal.main_call58_v3) :=
  by
  have eK := final_unary (KernelIdeal.Tail.writes_ks2 (F := Ideal)) WK 265 (rest := (KernelIdeal.Tail.ks2 (F := Ideal)).drop 266) (wrest := KernelIdeal.Tail.wr_ks2.drop 266) (y := KernelIdeal.main_call55_v3) (x := KernelIdeal.main_call55_call0.v0.ref) rfl rfl (by decide +kernel) (by decide +kernel)
  have eR := final_unary (ReferenceIdeal.Hand.writes_tlOps2 (F := Ideal)) WR 260 (rest := (ReferenceIdeal.Hand.tlOps2 (F := Ideal)).drop 261) (wrest := ReferenceIdeal.Hand.wr_tlOps2.drop 261) (y := ReferenceIdeal.main_call58_v3) (x := ReferenceIdeal.main_call58_v2) rfl rfl (by decide +kernel) (by decide +kernel)
  rw [eK, eR, h259 WK WR hP hLin hVal]
  try rfl
theorem h261 : StableHlo.after (KernelIdeal.Tail.ks2 (F := Ideal)) WK (Proc.devRef .tc KernelIdeal.main_call55_v4) = StableHlo.after (ReferenceIdeal.Hand.tlOps2 (F := Ideal)) WR (Proc.devRef .tc ReferenceIdeal.main_call58_v4) :=
  by
  have eK := final_binary (KernelIdeal.Tail.writes_ks2 (F := Ideal)) WK 266 (rest := (KernelIdeal.Tail.ks2 (F := Ideal)).drop 267) (wrest := KernelIdeal.Tail.wr_ks2.drop 267) (y := KernelIdeal.main_call55_v4) (a := KernelIdeal.main_v456) (b := KernelIdeal.main_call55_v3) rfl rfl (by decide +kernel) (by decide +kernel) (by decide +kernel)
  have eR := final_binary (ReferenceIdeal.Hand.writes_tlOps2 (F := Ideal)) WR 261 (rest := (ReferenceIdeal.Hand.tlOps2 (F := Ideal)).drop 262) (wrest := ReferenceIdeal.Hand.wr_tlOps2.drop 262) (y := ReferenceIdeal.main_call58_v4) (a := ReferenceIdeal.main_v508) (b := ReferenceIdeal.main_call58_v3) rfl rfl (by decide +kernel) (by decide +kernel) (by decide +kernel)
  rw [eK, eR, h178 WK WR hP hLin hVal, h260 WK WR hP hLin hVal]
  try rfl
theorem h262 : StableHlo.after (KernelIdeal.Tail.ks2 (F := Ideal)) WK (Proc.devRef .tc KernelIdeal.main_call55_c_1) = StableHlo.after (ReferenceIdeal.Hand.tlOps2 (F := Ideal)) WR (Proc.devRef .tc ReferenceIdeal.main_call58_c_1) :=
  by
  have eK := final_nullary (KernelIdeal.Tail.writes_ks2 (F := Ideal)) WK 267 (rest := (KernelIdeal.Tail.ks2 (F := Ideal)).drop 268) (wrest := KernelIdeal.Tail.wr_ks2.drop 268) (y := KernelIdeal.main_call55_c_1) rfl rfl (by decide +kernel)
  have eR := final_nullary (ReferenceIdeal.Hand.writes_tlOps2 (F := Ideal)) WR 262 (rest := (ReferenceIdeal.Hand.tlOps2 (F := Ideal)).drop 263) (wrest := ReferenceIdeal.Hand.wr_tlOps2.drop 263) (y := ReferenceIdeal.main_call58_c_1) rfl rfl (by decide +kernel)
  rw [eK, eR]
  try rfl
theorem h263 : StableHlo.after (KernelIdeal.Tail.ks2 (F := Ideal)) WK (Proc.devRef .tc KernelIdeal.main_call55_v5) = StableHlo.after (ReferenceIdeal.Hand.tlOps2 (F := Ideal)) WR (Proc.devRef .tc ReferenceIdeal.main_call58_v5) :=
  by
  have eK := final_unary (KernelIdeal.Tail.writes_ks2 (F := Ideal)) WK 268 (rest := (KernelIdeal.Tail.ks2 (F := Ideal)).drop 269) (wrest := KernelIdeal.Tail.wr_ks2.drop 269) (y := KernelIdeal.main_call55_v5) (x := KernelIdeal.main_call55_c_1) rfl rfl (by decide +kernel) (by decide +kernel)
  have eR := final_unary (ReferenceIdeal.Hand.writes_tlOps2 (F := Ideal)) WR 263 (rest := (ReferenceIdeal.Hand.tlOps2 (F := Ideal)).drop 264) (wrest := ReferenceIdeal.Hand.wr_tlOps2.drop 264) (y := ReferenceIdeal.main_call58_v5) (x := ReferenceIdeal.main_call58_c_1) rfl rfl (by decide +kernel) (by decide +kernel)
  rw [eK, eR, h262 WK WR hP hLin hVal]
  try rfl
theorem h264 : StableHlo.after (KernelIdeal.Tail.ks2 (F := Ideal)) WK (Proc.devRef .tc KernelIdeal.main_call55_v6) = StableHlo.after (ReferenceIdeal.Hand.tlOps2 (F := Ideal)) WR (Proc.devRef .tc ReferenceIdeal.main_call58_v6) :=
  by
  have eK := final_binary (KernelIdeal.Tail.writes_ks2 (F := Ideal)) WK 269 (rest := (KernelIdeal.Tail.ks2 (F := Ideal)).drop 270) (wrest := KernelIdeal.Tail.wr_ks2.drop 270) (y := KernelIdeal.main_call55_v6) (a := KernelIdeal.main_call55_v4) (b := KernelIdeal.main_call55_v5) rfl rfl (by decide +kernel) (by decide +kernel) (by decide +kernel)
  have eR := final_binary (ReferenceIdeal.Hand.writes_tlOps2 (F := Ideal)) WR 264 (rest := (ReferenceIdeal.Hand.tlOps2 (F := Ideal)).drop 265) (wrest := ReferenceIdeal.Hand.wr_tlOps2.drop 265) (y := ReferenceIdeal.main_call58_v6) (a := ReferenceIdeal.main_call58_v4) (b := ReferenceIdeal.main_call58_v5) rfl rfl (by decide +kernel) (by decide +kernel) (by decide +kernel)
  rw [eK, eR, h261 WK WR hP hLin hVal, h263 WK WR hP hLin hVal]
  try rfl
theorem h265 : StableHlo.after (KernelIdeal.Tail.ks2 (F := Ideal)) WK (Proc.devRef .tc KernelIdeal.main_call55_c_2) = StableHlo.after (ReferenceIdeal.Hand.tlOps2 (F := Ideal)) WR (Proc.devRef .tc ReferenceIdeal.main_call58_c_2) :=
  by
  have eK := final_nullary (KernelIdeal.Tail.writes_ks2 (F := Ideal)) WK 270 (rest := (KernelIdeal.Tail.ks2 (F := Ideal)).drop 271) (wrest := KernelIdeal.Tail.wr_ks2.drop 271) (y := KernelIdeal.main_call55_c_2) rfl rfl (by decide +kernel)
  have eR := final_nullary (ReferenceIdeal.Hand.writes_tlOps2 (F := Ideal)) WR 265 (rest := (ReferenceIdeal.Hand.tlOps2 (F := Ideal)).drop 266) (wrest := ReferenceIdeal.Hand.wr_tlOps2.drop 266) (y := ReferenceIdeal.main_call58_c_2) rfl rfl (by decide +kernel)
  rw [eK, eR]
  try rfl
theorem h266 : StableHlo.after (KernelIdeal.Tail.ks2 (F := Ideal)) WK (Proc.devRef .tc KernelIdeal.main_call55_v7) = StableHlo.after (ReferenceIdeal.Hand.tlOps2 (F := Ideal)) WR (Proc.devRef .tc ReferenceIdeal.main_call58_v7) :=
  by
  have eK := final_unary (KernelIdeal.Tail.writes_ks2 (F := Ideal)) WK 271 (rest := (KernelIdeal.Tail.ks2 (F := Ideal)).drop 272) (wrest := KernelIdeal.Tail.wr_ks2.drop 272) (y := KernelIdeal.main_call55_v7) (x := KernelIdeal.main_call55_c_2) rfl rfl (by decide +kernel) (by decide +kernel)
  have eR := final_unary (ReferenceIdeal.Hand.writes_tlOps2 (F := Ideal)) WR 266 (rest := (ReferenceIdeal.Hand.tlOps2 (F := Ideal)).drop 267) (wrest := ReferenceIdeal.Hand.wr_tlOps2.drop 267) (y := ReferenceIdeal.main_call58_v7) (x := ReferenceIdeal.main_call58_c_2) rfl rfl (by decide +kernel) (by decide +kernel)
  rw [eK, eR, h265 WK WR hP hLin hVal]
  try rfl
theorem h267 : StableHlo.after (KernelIdeal.Tail.ks2 (F := Ideal)) WK (Proc.devRef .tc KernelIdeal.main_call55_v8) = StableHlo.after (ReferenceIdeal.Hand.tlOps2 (F := Ideal)) WR (Proc.devRef .tc ReferenceIdeal.main_call58_v8) :=
  by
  have eK := final_binary (KernelIdeal.Tail.writes_ks2 (F := Ideal)) WK 272 (rest := (KernelIdeal.Tail.ks2 (F := Ideal)).drop 273) (wrest := KernelIdeal.Tail.wr_ks2.drop 273) (y := KernelIdeal.main_call55_v8) (a := KernelIdeal.main_call55_v4) (b := KernelIdeal.main_call55_v7) rfl rfl (by decide +kernel) (by decide +kernel) (by decide +kernel)
  have eR := final_binary (ReferenceIdeal.Hand.writes_tlOps2 (F := Ideal)) WR 267 (rest := (ReferenceIdeal.Hand.tlOps2 (F := Ideal)).drop 268) (wrest := ReferenceIdeal.Hand.wr_tlOps2.drop 268) (y := ReferenceIdeal.main_call58_v8) (a := ReferenceIdeal.main_call58_v4) (b := ReferenceIdeal.main_call58_v7) rfl rfl (by decide +kernel) (by decide +kernel) (by decide +kernel)
  rw [eK, eR, h261 WK WR hP hLin hVal, h266 WK WR hP hLin hVal]
  try rfl
theorem h268 : StableHlo.after (KernelIdeal.Tail.ks2 (F := Ideal)) WK (Proc.devRef .tc KernelIdeal.main_call55_c_3) = StableHlo.after (ReferenceIdeal.Hand.tlOps2 (F := Ideal)) WR (Proc.devRef .tc ReferenceIdeal.main_call58_c_3) :=
  by
  have eK := final_nullary (KernelIdeal.Tail.writes_ks2 (F := Ideal)) WK 273 (rest := (KernelIdeal.Tail.ks2 (F := Ideal)).drop 274) (wrest := KernelIdeal.Tail.wr_ks2.drop 274) (y := KernelIdeal.main_call55_c_3) rfl rfl (by decide +kernel)
  have eR := final_nullary (ReferenceIdeal.Hand.writes_tlOps2 (F := Ideal)) WR 268 (rest := (ReferenceIdeal.Hand.tlOps2 (F := Ideal)).drop 269) (wrest := ReferenceIdeal.Hand.wr_tlOps2.drop 269) (y := ReferenceIdeal.main_call58_c_3) rfl rfl (by decide +kernel)
  rw [eK, eR]
  try rfl
theorem h269 : StableHlo.after (KernelIdeal.Tail.ks2 (F := Ideal)) WK (Proc.devRef .tc KernelIdeal.main_call55_v9) = StableHlo.after (ReferenceIdeal.Hand.tlOps2 (F := Ideal)) WR (Proc.devRef .tc ReferenceIdeal.main_call58_v9) :=
  by
  have eK := final_binary (KernelIdeal.Tail.writes_ks2 (F := Ideal)) WK 274 (rest := (KernelIdeal.Tail.ks2 (F := Ideal)).drop 275) (wrest := KernelIdeal.Tail.wr_ks2.drop 275) (y := KernelIdeal.main_call55_v9) (a := KernelIdeal.main_call55_call0.v0.ref) (b := KernelIdeal.main_call55_c_3) rfl rfl (by decide +kernel) (by decide +kernel) (by decide +kernel)
  have eR := final_binary (ReferenceIdeal.Hand.writes_tlOps2 (F := Ideal)) WR 269 (rest := (ReferenceIdeal.Hand.tlOps2 (F := Ideal)).drop 270) (wrest := ReferenceIdeal.Hand.wr_tlOps2.drop 270) (y := ReferenceIdeal.main_call58_v9) (a := ReferenceIdeal.main_call58_v2) (b := ReferenceIdeal.main_call58_c_3) rfl rfl (by decide +kernel) (by decide +kernel) (by decide +kernel)
  rw [eK, eR, h259 WK WR hP hLin hVal, h268 WK WR hP hLin hVal]
  try rfl
theorem h270 : StableHlo.after (KernelIdeal.Tail.ks2 (F := Ideal)) WK (Proc.devRef .tc KernelIdeal.main_call55_v10) = StableHlo.after (ReferenceIdeal.Hand.tlOps2 (F := Ideal)) WR (Proc.devRef .tc ReferenceIdeal.main_call58_v10) :=
  by
  have eK := final_unary (KernelIdeal.Tail.writes_ks2 (F := Ideal)) WK 275 (rest := (KernelIdeal.Tail.ks2 (F := Ideal)).drop 276) (wrest := KernelIdeal.Tail.wr_ks2.drop 276) (y := KernelIdeal.main_call55_v10) (x := KernelIdeal.main_call55_v9) rfl rfl (by decide +kernel) (by decide +kernel)
  have eR := final_unary (ReferenceIdeal.Hand.writes_tlOps2 (F := Ideal)) WR 270 (rest := (ReferenceIdeal.Hand.tlOps2 (F := Ideal)).drop 271) (wrest := ReferenceIdeal.Hand.wr_tlOps2.drop 271) (y := ReferenceIdeal.main_call58_v10) (x := ReferenceIdeal.main_call58_v9) rfl rfl (by decide +kernel) (by decide +kernel)
  rw [eK, eR, h269 WK WR hP hLin hVal]
  try rfl
theorem h271 : StableHlo.after (KernelIdeal.Tail.ks2 (F := Ideal)) WK (Proc.devRef .tc KernelIdeal.main_call55_v11) = StableHlo.after (ReferenceIdeal.Hand.tlOps2 (F := Ideal)) WR (Proc.devRef .tc ReferenceIdeal.main_call58_v11) :=
  by
  have eK := final_binary (KernelIdeal.Tail.writes_ks2 (F := Ideal)) WK 276 (rest := (KernelIdeal.Tail.ks2 (F := Ideal)).drop 277) (wrest := KernelIdeal.Tail.wr_ks2.drop 277) (y := KernelIdeal.main_call55_v11) (a := KernelIdeal.main_call55_v8) (b := KernelIdeal.main_call55_v10) rfl rfl (by decide +kernel) (by decide +kernel) (by decide +kernel)
  have eR := final_binary (ReferenceIdeal.Hand.writes_tlOps2 (F := Ideal)) WR 271 (rest := (ReferenceIdeal.Hand.tlOps2 (F := Ideal)).drop 272) (wrest := ReferenceIdeal.Hand.wr_tlOps2.drop 272) (y := ReferenceIdeal.main_call58_v11) (a := ReferenceIdeal.main_call58_v8) (b := ReferenceIdeal.main_call58_v10) rfl rfl (by decide +kernel) (by decide +kernel) (by decide +kernel)
  rw [eK, eR, h267 WK WR hP hLin hVal, h270 WK WR hP hLin hVal]
  try rfl
theorem h272 : StableHlo.after (KernelIdeal.Tail.ks2 (F := Ideal)) WK (Proc.devRef .tc KernelIdeal.main_call55_v12) = StableHlo.after (ReferenceIdeal.Hand.tlOps2 (F := Ideal)) WR (Proc.devRef .tc ReferenceIdeal.main_call58_v12) :=
  by
  have eK := final_binary (KernelIdeal.Tail.writes_ks2 (F := Ideal)) WK 277 (rest := (KernelIdeal.Tail.ks2 (F := Ideal)).drop 278) (wrest := KernelIdeal.Tail.wr_ks2.drop 278) (y := KernelIdeal.main_call55_v12) (a := KernelIdeal.main_call55_v11) (b := KernelIdeal.main_call55_v6) rfl rfl (by decide +kernel) (by decide +kernel) (by decide +kernel)
  have eR := final_binary (ReferenceIdeal.Hand.writes_tlOps2 (F := Ideal)) WR 272 (rest := (ReferenceIdeal.Hand.tlOps2 (F := Ideal)).drop 273) (wrest := ReferenceIdeal.Hand.wr_tlOps2.drop 273) (y := ReferenceIdeal.main_call58_v12) (a := ReferenceIdeal.main_call58_v11) (b := ReferenceIdeal.main_call58_v6) rfl rfl (by decide +kernel) (by decide +kernel) (by decide +kernel)
  rw [eK, eR, h271 WK WR hP hLin hVal, h264 WK WR hP hLin hVal]
  try rfl
theorem h273 : StableHlo.after (KernelIdeal.Tail.ks2 (F := Ideal)) WK (Proc.devRef .tc KernelIdeal.main_call55_v13) = StableHlo.after (ReferenceIdeal.Hand.tlOps2 (F := Ideal)) WR (Proc.devRef .tc ReferenceIdeal.main_call58_v13) :=
  by
  have eK := final_unary (KernelIdeal.Tail.writes_ks2 (F := Ideal)) WK 278 (rest := (KernelIdeal.Tail.ks2 (F := Ideal)).drop 279) (wrest := KernelIdeal.Tail.wr_ks2.drop 279) (y := KernelIdeal.main_call55_v13) (x := KernelIdeal.main_call55_call0.v0.ref) rfl rfl (by decide +kernel) (by decide +kernel)
  have eR := final_unary (ReferenceIdeal.Hand.writes_tlOps2 (F := Ideal)) WR 273 (rest := (ReferenceIdeal.Hand.tlOps2 (F := Ideal)).drop 274) (wrest := ReferenceIdeal.Hand.wr_tlOps2.drop 274) (y := ReferenceIdeal.main_call58_v13) (x := ReferenceIdeal.main_call58_v2) rfl rfl (by decide +kernel) (by decide +kernel)
  rw [eK, eR, h259 WK WR hP hLin hVal]
  try rfl
theorem h274 : StableHlo.after (KernelIdeal.Tail.ks2 (F := Ideal)) WK (Proc.devRef .tc KernelIdeal.main_call55_v14) = StableHlo.after (ReferenceIdeal.Hand.tlOps2 (F := Ideal)) WR (Proc.devRef .tc ReferenceIdeal.main_call58_v14) :=
  by
  have eK := final_binary (KernelIdeal.Tail.writes_ks2 (F := Ideal)) WK 279 (rest := (KernelIdeal.Tail.ks2 (F := Ideal)).drop 280) (wrest := KernelIdeal.Tail.wr_ks2.drop 280) (y := KernelIdeal.main_call55_v14) (a := KernelIdeal.main_call55_v4) (b := KernelIdeal.main_call55_v13) rfl rfl (by decide +kernel) (by decide +kernel) (by decide +kernel)
  have eR := final_binary (ReferenceIdeal.Hand.writes_tlOps2 (F := Ideal)) WR 274 (rest := (ReferenceIdeal.Hand.tlOps2 (F := Ideal)).drop 275) (wrest := ReferenceIdeal.Hand.wr_tlOps2.drop 275) (y := ReferenceIdeal.main_call58_v14) (a := ReferenceIdeal.main_call58_v4) (b := ReferenceIdeal.main_call58_v13) rfl rfl (by decide +kernel) (by decide +kernel) (by decide +kernel)
  rw [eK, eR, h261 WK WR hP hLin hVal, h273 WK WR hP hLin hVal]
  try rfl
theorem h275 : StableHlo.after (KernelIdeal.Tail.ks2 (F := Ideal)) WK (Proc.devRef .tc KernelIdeal.main_v468) = StableHlo.after (ReferenceIdeal.Hand.tlOps2 (F := Ideal)) WR (Proc.devRef .tc ReferenceIdeal.main_v520) :=
  by
  have eK := final_ternary (KernelIdeal.Tail.writes_ks2 (F := Ideal)) WK 280 (rest := (KernelIdeal.Tail.ks2 (F := Ideal)).drop 281) (wrest := KernelIdeal.Tail.wr_ks2.drop 281) (y := KernelIdeal.main_v468) (c := KernelIdeal.main_call55_v12) (a := KernelIdeal.main_call55_v14) (b := KernelIdeal.main_call55_v4) rfl rfl (by decide +kernel) (by decide +kernel) (by decide +kernel) (by decide +kernel)
  have eR := final_ternary (ReferenceIdeal.Hand.writes_tlOps2 (F := Ideal)) WR 275 (rest := (ReferenceIdeal.Hand.tlOps2 (F := Ideal)).drop 276) (wrest := ReferenceIdeal.Hand.wr_tlOps2.drop 276) (y := ReferenceIdeal.main_v520) (c := ReferenceIdeal.main_call58_v12) (a := ReferenceIdeal.main_call58_v14) (b := ReferenceIdeal.main_call58_v4) rfl rfl (by decide +kernel) (by decide +kernel) (by decide +kernel) (by decide +kernel)
  rw [eK, eR, h272 WK WR hP hLin hVal, h274 WK WR hP hLin hVal, h261 WK WR hP hLin hVal]
  try rfl
theorem h276 : StableHlo.after (KernelIdeal.Tail.ks2 (F := Ideal)) WK (Proc.devRef .tc KernelIdeal.main_c_188) = StableHlo.after (ReferenceIdeal.Hand.tlOps2 (F := Ideal)) WR (Proc.devRef .tc ReferenceIdeal.main_c_194) :=
  by
  have eK := final_nullary (KernelIdeal.Tail.writes_ks2 (F := Ideal)) WK 281 (rest := (KernelIdeal.Tail.ks2 (F := Ideal)).drop 282) (wrest := KernelIdeal.Tail.wr_ks2.drop 282) (y := KernelIdeal.main_c_188) rfl rfl (by decide +kernel)
  have eR := final_nullary (ReferenceIdeal.Hand.writes_tlOps2 (F := Ideal)) WR 276 (rest := (ReferenceIdeal.Hand.tlOps2 (F := Ideal)).drop 277) (wrest := ReferenceIdeal.Hand.wr_tlOps2.drop 277) (y := ReferenceIdeal.main_c_194) rfl rfl (by decide +kernel)
  rw [eK, eR]
  try rfl
theorem h277 : StableHlo.after (KernelIdeal.Tail.ks2 (F := Ideal)) WK (Proc.devRef .tc KernelIdeal.main_call56_v0) = StableHlo.after (ReferenceIdeal.Hand.tlOps2 (F := Ideal)) WR (Proc.devRef .tc ReferenceIdeal.main_call59_v0) :=
  by
  have eK := final_unary (KernelIdeal.Tail.writes_ks2 (F := Ideal)) WK 282 (rest := (KernelIdeal.Tail.ks2 (F := Ideal)).drop 283) (wrest := KernelIdeal.Tail.wr_ks2.drop 283) (y := KernelIdeal.main_call56_v0) (x := KernelIdeal.main_c_188) rfl rfl (by decide +kernel) (by decide +kernel)
  have eR := final_unary (ReferenceIdeal.Hand.writes_tlOps2 (F := Ideal)) WR 277 (rest := (ReferenceIdeal.Hand.tlOps2 (F := Ideal)).drop 278) (wrest := ReferenceIdeal.Hand.wr_tlOps2.drop 278) (y := ReferenceIdeal.main_call59_v0) (x := ReferenceIdeal.main_c_194) rfl rfl (by decide +kernel) (by decide +kernel)
  rw [eK, eR, h276 WK WR hP hLin hVal]
  try rfl
theorem h278 : StableHlo.after (KernelIdeal.Tail.ks2 (F := Ideal)) WK (Proc.devRef .tc KernelIdeal.main_call56_v1) = StableHlo.after (ReferenceIdeal.Hand.tlOps2 (F := Ideal)) WR (Proc.devRef .tc ReferenceIdeal.main_call59_v1) :=
  by
  have eK := final_unary (KernelIdeal.Tail.writes_ks2 (F := Ideal)) WK 283 (rest := (KernelIdeal.Tail.ks2 (F := Ideal)).drop 284) (wrest := KernelIdeal.Tail.wr_ks2.drop 284) (y := KernelIdeal.main_call56_v1) (x := KernelIdeal.main_call56_v0) rfl rfl (by decide +kernel) (by decide +kernel)
  have eR := final_unary (ReferenceIdeal.Hand.writes_tlOps2 (F := Ideal)) WR 278 (rest := (ReferenceIdeal.Hand.tlOps2 (F := Ideal)).drop 279) (wrest := ReferenceIdeal.Hand.wr_tlOps2.drop 279) (y := ReferenceIdeal.main_call59_v1) (x := ReferenceIdeal.main_call59_v0) rfl rfl (by decide +kernel) (by decide +kernel)
  rw [eK, eR, h277 WK WR hP hLin hVal]
  try rfl
theorem h279 : StableHlo.after (KernelIdeal.Tail.ks2 (F := Ideal)) WK (Proc.devRef .tc KernelIdeal.main_v469) = StableHlo.after (ReferenceIdeal.Hand.tlOps2 (F := Ideal)) WR (Proc.devRef .tc ReferenceIdeal.main_v521) :=
  by
  have eK := final_ternary (KernelIdeal.Tail.writes_ks2 (F := Ideal)) WK 284 (rest := (KernelIdeal.Tail.ks2 (F := Ideal)).drop 285) (wrest := KernelIdeal.Tail.wr_ks2.drop 285) (y := KernelIdeal.main_v469) (c := KernelIdeal.main_v467) (a := KernelIdeal.main_v468) (b := KernelIdeal.main_call56_v1) rfl rfl (by decide +kernel) (by decide +kernel) (by decide +kernel) (by decide +kernel)
  have eR := final_ternary (ReferenceIdeal.Hand.writes_tlOps2 (F := Ideal)) WR 279 (rest := (ReferenceIdeal.Hand.tlOps2 (F := Ideal)).drop 280) (wrest := ReferenceIdeal.Hand.wr_tlOps2.drop 280) (y := ReferenceIdeal.main_v521) (c := ReferenceIdeal.main_v519) (a := ReferenceIdeal.main_v520) (b := ReferenceIdeal.main_call59_v1) rfl rfl (by decide +kernel) (by decide +kernel) (by decide +kernel) (by decide +kernel)
  rw [eK, eR, h253 WK WR hP hLin hVal, h275 WK WR hP hLin hVal, h278 WK WR hP hLin hVal]
  try rfl
theorem h280 : StableHlo.after (KernelIdeal.Tail.ks2 (F := Ideal)) WK (Proc.devRef .tc KernelIdeal.main_v470) = StableHlo.after (ReferenceIdeal.Hand.tlOps2 (F := Ideal)) WR (Proc.devRef .tc ReferenceIdeal.main_v522) :=
  by
  have eK := final_unary (KernelIdeal.Tail.writes_ks2 (F := Ideal)) WK 285 (rest := (KernelIdeal.Tail.ks2 (F := Ideal)).drop 286) (wrest := KernelIdeal.Tail.wr_ks2.drop 286) (y := KernelIdeal.main_v470) (x := KernelIdeal.main_v460) rfl rfl (by decide +kernel) (by decide +kernel)
  have eR := final_unary (ReferenceIdeal.Hand.writes_tlOps2 (F := Ideal)) WR 280 (rest := (ReferenceIdeal.Hand.tlOps2 (F := Ideal)).drop 281) (wrest := ReferenceIdeal.Hand.wr_tlOps2.drop 281) (y := ReferenceIdeal.main_v522) (x := ReferenceIdeal.main_v512) rfl rfl (by decide +kernel) (by decide +kernel)
  rw [eK, eR, h203 WK WR hP hLin hVal]
  try rfl
theorem h281 : StableHlo.after (KernelIdeal.Tail.ks2 (F := Ideal)) WK (Proc.devRef .tc KernelIdeal.main_v471) = StableHlo.after (ReferenceIdeal.Hand.tlOps2 (F := Ideal)) WR (Proc.devRef .tc ReferenceIdeal.main_v523) :=
  by
  have eK := final_unary (KernelIdeal.Tail.writes_ks2 (F := Ideal)) WK 286 (rest := (KernelIdeal.Tail.ks2 (F := Ideal)).drop 287) (wrest := KernelIdeal.Tail.wr_ks2.drop 287) (y := KernelIdeal.main_v471) (x := KernelIdeal.main_v465) rfl rfl (by decide +kernel) (by decide +kernel)
  have eR := final_unary (ReferenceIdeal.Hand.writes_tlOps2 (F := Ideal)) WR 281 (rest := (ReferenceIdeal.Hand.tlOps2 (F := Ideal)).drop 282) (wrest := ReferenceIdeal.Hand.wr_tlOps2.drop 282) (y := ReferenceIdeal.main_v523) (x := ReferenceIdeal.main_v517) rfl rfl (by decide +kernel) (by decide +kernel)
  rw [eK, eR, h250 WK WR hP hLin hVal]
  try rfl
theorem h282 : StableHlo.after (KernelIdeal.Tail.ks2 (F := Ideal)) WK (Proc.devRef .tc KernelIdeal.main_v472) = StableHlo.after (ReferenceIdeal.Hand.tlOps2 (F := Ideal)) WR (Proc.devRef .tc ReferenceIdeal.main_v524) :=
  by
  have eK := final_unary (KernelIdeal.Tail.writes_ks2 (F := Ideal)) WK 287 (rest := (KernelIdeal.Tail.ks2 (F := Ideal)).drop 288) (wrest := KernelIdeal.Tail.wr_ks2.drop 288) (y := KernelIdeal.main_v472) (x := KernelIdeal.main_v469) rfl rfl (by decide +kernel) (by decide +kernel)
  have eR := final_unary (ReferenceIdeal.Hand.writes_tlOps2 (F := Ideal)) WR 282 (rest := (ReferenceIdeal.Hand.tlOps2 (F := Ideal)).drop 283) (wrest := ReferenceIdeal.Hand.wr_tlOps2.drop 283) (y := ReferenceIdeal.main_v524) (x := ReferenceIdeal.main_v521) rfl rfl (by decide +kernel) (by decide +kernel)
  rw [eK, eR, h279 WK WR hP hLin hVal]
  try rfl
theorem h283 : StableHlo.after (KernelIdeal.Tail.ks2 (F := Ideal)) WK (Proc.devRef .tc KernelIdeal.main_v473) = StableHlo.after (ReferenceIdeal.Hand.tlOps2 (F := Ideal)) WR (Proc.devRef .tc ReferenceIdeal.main_v525) := by
  refine (final_at (KernelIdeal.Tail.writes_ks2 (F := Ideal)) WK 288 (op := _) (rest := (KernelIdeal.Tail.ks2 (F := Ideal)).drop 289) (wrest := KernelIdeal.Tail.wr_ks2.drop 289) (y := KernelIdeal.main_v473) rfl rfl (by decide +kernel)).trans ?_
  refine Eq.symm ?_
  refine (final_at (ReferenceIdeal.Hand.writes_tlOps2 (F := Ideal)) WR 283 (op := _) (rest := (ReferenceIdeal.Hand.tlOps2 (F := Ideal)).drop 284) (wrest := ReferenceIdeal.Hand.wr_tlOps2.drop 284) (y := ReferenceIdeal.main_v525) rfl rfl (by decide +kernel)).trans ?_
  refine Eq.symm ?_
  refine (nary3_result _ _ _ _).trans ?_
  refine Eq.symm ?_
  refine (nary3_result _ _ _ _).trans ?_
  rw [stable (ReferenceIdeal.Hand.writes_tlOps2 (F := Ideal)) WR 283 ReferenceIdeal.main_v522 (by decide +kernel), stable (ReferenceIdeal.Hand.writes_tlOps2 (F := Ideal)) WR 283 ReferenceIdeal.main_v523 (by decide +kernel), stable (ReferenceIdeal.Hand.writes_tlOps2 (F := Ideal)) WR 283 ReferenceIdeal.main_v524 (by decide +kernel), stable (KernelIdeal.Tail.writes_ks2 (F := Ideal)) WK 288 KernelIdeal.main_v470 (by decide +kernel), stable (KernelIdeal.Tail.writes_ks2 (F := Ideal)) WK 288 KernelIdeal.main_v471 (by decide +kernel), stable (KernelIdeal.Tail.writes_ks2 (F := Ideal)) WK 288 KernelIdeal.main_v472 (by decide +kernel), h280 WK WR hP hLin hVal, h281 WK WR hP hLin hVal, h282 WK WR hP hLin hVal]
  rfl
theorem h284 : StableHlo.after (KernelIdeal.Tail.ks2 (F := Ideal)) WK (Proc.devRef .tc KernelIdeal.main_c_189) = StableHlo.after (ReferenceIdeal.Hand.tlOps2 (F := Ideal)) WR (Proc.devRef .tc ReferenceIdeal.main_c_195) :=
  by
  have eK := final_nullary (KernelIdeal.Tail.writes_ks2 (F := Ideal)) WK 289 (rest := (KernelIdeal.Tail.ks2 (F := Ideal)).drop 290) (wrest := KernelIdeal.Tail.wr_ks2.drop 290) (y := KernelIdeal.main_c_189) rfl rfl (by decide +kernel)
  have eR := final_nullary (ReferenceIdeal.Hand.writes_tlOps2 (F := Ideal)) WR 284 (rest := (ReferenceIdeal.Hand.tlOps2 (F := Ideal)).drop 285) (wrest := ReferenceIdeal.Hand.wr_tlOps2.drop 285) (y := ReferenceIdeal.main_c_195) rfl rfl (by decide +kernel)
  rw [eK, eR]
  try rfl
theorem h285 : StableHlo.after (KernelIdeal.Tail.ks2 (F := Ideal)) WK (Proc.devRef .tc KernelIdeal.main_v474) = StableHlo.after (ReferenceIdeal.Hand.tlOps2 (F := Ideal)) WR (Proc.devRef .tc ReferenceIdeal.main_v526) :=
  by
  have eK := final_unary (KernelIdeal.Tail.writes_ks2 (F := Ideal)) WK 290 (rest := (KernelIdeal.Tail.ks2 (F := Ideal)).drop 291) (wrest := KernelIdeal.Tail.wr_ks2.drop 291) (y := KernelIdeal.main_v474) (x := KernelIdeal.main_c_189) rfl rfl (by decide +kernel) (by decide +kernel)
  have eR := final_unary (ReferenceIdeal.Hand.writes_tlOps2 (F := Ideal)) WR 285 (rest := (ReferenceIdeal.Hand.tlOps2 (F := Ideal)).drop 286) (wrest := ReferenceIdeal.Hand.wr_tlOps2.drop 286) (y := ReferenceIdeal.main_v526) (x := ReferenceIdeal.main_c_195) rfl rfl (by decide +kernel) (by decide +kernel)
  rw [eK, eR, h284 WK WR hP hLin hVal]
  try rfl
theorem h286 : StableHlo.after (KernelIdeal.Tail.ks2 (F := Ideal)) WK (Proc.devRef .tc KernelIdeal.main_v475) = StableHlo.after (ReferenceIdeal.Hand.tlOps2 (F := Ideal)) WR (Proc.devRef .tc ReferenceIdeal.main_v527) :=
  by
  have eK := final_binary (KernelIdeal.Tail.writes_ks2 (F := Ideal)) WK 291 (rest := (KernelIdeal.Tail.ks2 (F := Ideal)).drop 292) (wrest := KernelIdeal.Tail.wr_ks2.drop 292) (y := KernelIdeal.main_v475) (a := KernelIdeal.main_v474) (b := KernelIdeal.main_v473) rfl rfl (by decide +kernel) (by decide +kernel) (by decide +kernel)
  have eR := final_binary (ReferenceIdeal.Hand.writes_tlOps2 (F := Ideal)) WR 286 (rest := (ReferenceIdeal.Hand.tlOps2 (F := Ideal)).drop 287) (wrest := ReferenceIdeal.Hand.wr_tlOps2.drop 287) (y := ReferenceIdeal.main_v527) (a := ReferenceIdeal.main_v526) (b := ReferenceIdeal.main_v525) rfl rfl (by decide +kernel) (by decide +kernel) (by decide +kernel)
  rw [eK, eR, h285 WK WR hP hLin hVal, h283 WK WR hP hLin hVal]
  try rfl

end Walk

end Cert.Bridge.Fast2

namespace Cert.Bridge
open Idealize.ShloMosaic Idealize.ShloMosaic.TcCoe Idealize.SL.Sem Idealize.ShloMosaic.StableHlo Cert.Lock

/-- Batch 2, by the walk in step: the three inputs agree at the end of the two lists (the points and the reference's
    cell ids and mask are inputs, never written; the kernel program's cell ids and mask are its five leading operations),
    and the three outputs are lines 144, 150, 286 of the walk. -/
theorem batch2' (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v41) = WR (Proc.devRef .tc Cert.ReferenceIdeal.main_v365))
    (hl : (fun i => shapeCast (Cert.KernelIdeal.main_v340 : Ref Cert.KernelIdeal.sig .tc).ty.shape
            (extractStridedSlice Cert.KernelIdeal.S1x300000 ![2, 0] (WK (Proc.devRef .tc Cert.KernelIdeal.main_v64)) Cert.KernelIdeal.Facts₀.slices_S4x300000_S1x300000_2_0)
            Cert.KernelIdeal.Facts₀.shapeCasts_S1x300000_S300000 i) = WR (Proc.devRef .tc Cert.ReferenceIdeal.main_v394))
    (hv : cmpi .ne (WR (Proc.devRef .tc Cert.ReferenceIdeal.main_v394)) (broadcastInDim Cert.KernelIdeal.S300000 ![] Cert.KernelIdeal.Facts₀.bcast_S_S300000 (constantI Cert.KernelIdeal.S_ 32 262144#32))
            = WR (Proc.devRef .tc Cert.ReferenceIdeal.main_v381)) :
    StableHlo.after (Cert.KernelIdeal.Tail.ks2 (F := Ideal)) WK (Proc.devRef .tc Cert.KernelIdeal.main_v434)
        = StableHlo.after (Cert.ReferenceIdeal.Hand.tlOps2 (F := Ideal)) WR (Proc.devRef .tc Cert.ReferenceIdeal.main_v486)
    ∧ StableHlo.after (Cert.KernelIdeal.Tail.ks2 (F := Ideal)) WK (Proc.devRef .tc Cert.KernelIdeal.main_v439)
        = StableHlo.after (Cert.ReferenceIdeal.Hand.tlOps2 (F := Ideal)) WR (Proc.devRef .tc Cert.ReferenceIdeal.main_v491)
    ∧ StableHlo.after (Cert.KernelIdeal.Tail.ks2 (F := Ideal)) WK (Proc.devRef .tc Cert.KernelIdeal.main_v475)
        = StableHlo.after (Cert.ReferenceIdeal.Hand.tlOps2 (F := Ideal)) WR (Proc.devRef .tc Cert.ReferenceIdeal.main_v527) := by
  have kP : StableHlo.after (KernelIdeal.Tail.ks2 (F := Ideal)) WK (Proc.devRef .tc KernelIdeal.main_v41) = WK (Proc.devRef .tc KernelIdeal.main_v41) := keep_key (KernelIdeal.Tail.writes_ks2 (F := Ideal)) WK _ (by decide +kernel)
  have k64 : StableHlo.after (KernelIdeal.Tail.ks2 (F := Ideal)) WK (Proc.devRef .tc KernelIdeal.main_v64) = WK (Proc.devRef .tc KernelIdeal.main_v64) := keep_key (KernelIdeal.Tail.writes_ks2 (F := Ideal)) WK _ (by decide +kernel)
  have rP : StableHlo.after (ReferenceIdeal.Hand.tlOps2 (F := Ideal)) WR (Proc.devRef .tc ReferenceIdeal.main_v365) = WR (Proc.devRef .tc ReferenceIdeal.main_v365) := keep_key (ReferenceIdeal.Hand.writes_tlOps2 (F := Ideal)) WR _ (by decide +kernel)
  have rL : StableHlo.after (ReferenceIdeal.Hand.tlOps2 (F := Ideal)) WR (Proc.devRef .tc ReferenceIdeal.main_v394) = WR (Proc.devRef .tc ReferenceIdeal.main_v394) := keep_key (ReferenceIdeal.Hand.writes_tlOps2 (F := Ideal)) WR _ (by decide +kernel)
  have rV : StableHlo.after (ReferenceIdeal.Hand.tlOps2 (F := Ideal)) WR (Proc.devRef .tc ReferenceIdeal.main_v381) = WR (Proc.devRef .tc ReferenceIdeal.main_v381) := keep_key (ReferenceIdeal.Hand.writes_tlOps2 (F := Ideal)) WR _ (by decide +kernel)
  have e65 := final_unary (KernelIdeal.Tail.writes_ks2 (F := Ideal)) WK 0 (rest := (KernelIdeal.Tail.ks2 (F := Ideal)).drop 1) (wrest := KernelIdeal.Tail.wr_ks2.drop 1) (y := KernelIdeal.main_v339) (x := KernelIdeal.main_v64) rfl rfl (by decide +kernel) (by decide +kernel)
  have e66 := final_reshape (KernelIdeal.Tail.writes_ks2 (F := Ideal)) WK 1 (rest := (KernelIdeal.Tail.ks2 (F := Ideal)).drop 2) (wrest := KernelIdeal.Tail.wr_ks2.drop 2) (y := KernelIdeal.main_v340) (x := KernelIdeal.main_v339) rfl rfl (by decide +kernel) (by decide +kernel)
  have ec := final_nullary (KernelIdeal.Tail.writes_ks2 (F := Ideal)) WK 2 (rest := (KernelIdeal.Tail.ks2 (F := Ideal)).drop 3) (wrest := KernelIdeal.Tail.wr_ks2.drop 3) (y := KernelIdeal.main_c_138) rfl rfl (by decide +kernel)
  have e67 := final_unary (KernelIdeal.Tail.writes_ks2 (F := Ideal)) WK 3 (rest := (KernelIdeal.Tail.ks2 (F := Ideal)).drop 4) (wrest := KernelIdeal.Tail.wr_ks2.drop 4) (y := KernelIdeal.main_v341) (x := KernelIdeal.main_c_138) rfl rfl (by decide +kernel) (by decide +kernel)
  have e68 := final_binary (KernelIdeal.Tail.writes_ks2 (F := Ideal)) WK 4 (rest := (KernelIdeal.Tail.ks2 (F := Ideal)).drop 5) (wrest := KernelIdeal.Tail.wr_ks2.drop 5) (y := KernelIdeal.main_v342) (a := KernelIdeal.main_v340) (b := KernelIdeal.main_v341) rfl rfl (by decide +kernel) (by decide +kernel) (by decide +kernel)
  have eP : StableHlo.after (KernelIdeal.Tail.ks2 (F := Ideal)) WK (Proc.devRef .tc KernelIdeal.main_v41) = StableHlo.after (ReferenceIdeal.Hand.tlOps2 (F := Ideal)) WR (Proc.devRef .tc ReferenceIdeal.main_v365) := kP.trans (hp.trans rP.symm)
  have eLin : StableHlo.after (KernelIdeal.Tail.ks2 (F := Ideal)) WK (Proc.devRef .tc KernelIdeal.main_v340) = StableHlo.after (ReferenceIdeal.Hand.tlOps2 (F := Ideal)) WR (Proc.devRef .tc ReferenceIdeal.main_v394) := by
    rw [e66, e65, k64, rL]; exact hl
  have eVal : StableHlo.after (KernelIdeal.Tail.ks2 (F := Ideal)) WK (Proc.devRef .tc KernelIdeal.main_v342) = StableHlo.after (ReferenceIdeal.Hand.tlOps2 (F := Ideal)) WR (Proc.devRef .tc ReferenceIdeal.main_v381) := by
    rw [e68, eLin, e67, ec, rL, rV]; exact hv
  exact ⟨Fast2.h144 WK WR eP eLin eVal, Fast2.h150 WK WR eP eLin eVal, Fast2.h286 WK WR eP eLin eVal⟩

end Cert.Bridge
end
-- ==== Proof.BridgeBatch2.lean ====
import proofs.«111982_j16939351015723_2_alg».proof.Proof.BatchFast2

/-! Batch 2 of four: the operations that follow the cell ids are the same on both sides. -/

set_option maxRecDepth 16384

noncomputable section
namespace Cert.Bridge
open Idealize.ShloMosaic Idealize.ShloMosaic.TcCoe Idealize.SL.Sem Idealize.ShloMosaic.StableHlo

/-- Batch 2: from equal points, cell ids and validity mask, the kernel program's operations after the cell ids and the
    reference's leave equal voxels, point counts and coordinates (they are the same operations in the same order). -/
theorem batch2 (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v41) = WR (Proc.devRef .tc Cert.ReferenceIdeal.main_v365))
    (hl : (fun i => shapeCast (Cert.KernelIdeal.main_v340 : Ref Cert.KernelIdeal.sig .tc).ty.shape
            (extractStridedSlice Cert.KernelIdeal.S1x300000 ![2, 0] (WK (Proc.devRef .tc Cert.KernelIdeal.main_v64)) Cert.KernelIdeal.Facts₀.slices_S4x300000_S1x300000_2_0)
            Cert.KernelIdeal.Facts₀.shapeCasts_S1x300000_S300000 i) = WR (Proc.devRef .tc Cert.ReferenceIdeal.main_v394))
    (hv : cmpi .ne (WR (Proc.devRef .tc Cert.ReferenceIdeal.main_v394)) (broadcastInDim Cert.KernelIdeal.S300000 ![] Cert.KernelIdeal.Facts₀.bcast_S_S300000 (constantI Cert.KernelIdeal.S_ 32 262144#32))
            = WR (Proc.devRef .tc Cert.ReferenceIdeal.main_v381)) :
    StableHlo.after (Cert.KernelIdeal.Tail.ks2 (F := Ideal)) WK (Proc.devRef .tc Cert.KernelIdeal.main_v434)
        = StableHlo.after (Cert.ReferenceIdeal.Hand.tlOps2 (F := Ideal)) WR (Proc.devRef .tc Cert.ReferenceIdeal.main_v486)
    ∧ StableHlo.after (Cert.KernelIdeal.Tail.ks2 (F := Ideal)) WK (Proc.devRef .tc Cert.KernelIdeal.main_v439)
        = StableHlo.after (Cert.ReferenceIdeal.Hand.tlOps2 (F := Ideal)) WR (Proc.devRef .tc Cert.ReferenceIdeal.main_v491)
    ∧ StableHlo.after (Cert.KernelIdeal.Tail.ks2 (F := Ideal)) WK (Proc.devRef .tc Cert.KernelIdeal.main_v475)
        = StableHlo.after (Cert.ReferenceIdeal.Hand.tlOps2 (F := Ideal)) WR (Proc.devRef .tc Cert.ReferenceIdeal.main_v527) := by
  exact batch2' WK WR hp hl hv

end Cert.Bridge
end
-- ==== Proof.BatchFast3.lean ====
/- TABLE: batch 3 of four, the two programs' operations after the cell ids walked in step, one line per pair of
   operations; then the batch's statement from the walk's three output lines. -/
import proofs.«111982_j16939351015723_2_alg».proof.Proof.KeepK
import proofs.«111982_j16939351015723_2_alg».proof.Proof.KeepR
import proofs.«111982_j16939351015723_2_alg».proof.Proof.LockCore
import Idealize.ShloMosaic.PureOps.Ideal

set_option maxRecDepth 16384

noncomputable section
namespace Cert.Bridge.Fast3
open Idealize.ShloMosaic Idealize.ShloMosaic.TcCoe Idealize.SL.Sem Idealize.ShloMosaic.StableHlo Cert.Lock

/-! Batch 3: the kernel program's operations after its cell ids and mask, and the reference's, are the same operations
in the same order. Walked in step: line `k` says that the `k`-th results agree at the end of the two lists, from the
agreement of its operands (earlier lines, or the three inputs: points, cell ids, mask). -/

section Walk
variable (WK : Valuation KernelIdeal.τ KernelIdeal.sig (Elt Ideal)) (WR : Valuation ReferenceIdeal.τ ReferenceIdeal.sig (Elt Ideal))
  (hP : StableHlo.after (KernelIdeal.Tail.ks3 (F := Ideal)) WK (Proc.devRef .tc KernelIdeal.main_v55) = StableHlo.after (ReferenceIdeal.Hand.tlOps3 (F := Ideal)) WR (Proc.devRef .tc ReferenceIdeal.main_v541))
  (hLin : StableHlo.after (KernelIdeal.Tail.ks3 (F := Ideal)) WK (Proc.devRef .tc KernelIdeal.main_v477) = StableHlo.after (ReferenceIdeal.Hand.tlOps3 (F := Ideal)) WR (Proc.devRef .tc ReferenceIdeal.main_v570))
  (hVal : StableHlo.after (KernelIdeal.Tail.ks3 (F := Ideal)) WK (Proc.devRef .tc KernelIdeal.main_v479) = StableHlo.after (ReferenceIdeal.Hand.tlOps3 (F := Ideal)) WR (Proc.devRef .tc ReferenceIdeal.main_v557))
include hP hLin hVal

-- the contents at the end of a list are compared as they stand, never computed
attribute [local irreducible] StableHlo.after

theorem h0 : StableHlo.after (KernelIdeal.Tail.ks3 (F := Ideal)) WK (Proc.devRef .tc KernelIdeal.main_v480) = StableHlo.after (ReferenceIdeal.Hand.tlOps3 (F := Ideal)) WR (Proc.devRef .tc ReferenceIdeal.main_v571) :=
  by
  have eK := final_nullary (KernelIdeal.Tail.writes_ks3 (F := Ideal)) WK 5 (rest := (KernelIdeal.Tail.ks3 (F := Ideal)).drop 6) (wrest := KernelIdeal.Tail.wr_ks3.drop 6) (y := KernelIdeal.main_v480) rfl rfl (by decide +kernel)
  have eR := final_nullary (ReferenceIdeal.Hand.writes_tlOps3 (F := Ideal)) WR 0 (rest := (ReferenceIdeal.Hand.tlOps3 (F := Ideal)).drop 1) (wrest := ReferenceIdeal.Hand.wr_tlOps3.drop 1) (y := ReferenceIdeal.main_v571) rfl rfl (by decide +kernel)
  rw [eK, eR]
  try rfl
theorem h1 : StableHlo.after (KernelIdeal.Tail.ks3 (F := Ideal)) WK (Proc.devRef .tc KernelIdeal.main_c_191) = StableHlo.after (ReferenceIdeal.Hand.tlOps3 (F := Ideal)) WR (Proc.devRef .tc ReferenceIdeal.main_c_210) :=
  by
  have eK := final_nullary (KernelIdeal.Tail.writes_ks3 (F := Ideal)) WK 6 (rest := (KernelIdeal.Tail.ks3 (F := Ideal)).drop 7) (wrest := KernelIdeal.Tail.wr_ks3.drop 7) (y := KernelIdeal.main_c_191) rfl rfl (by decide +kernel)
  have eR := final_nullary (ReferenceIdeal.Hand.writes_tlOps3 (F := Ideal)) WR 1 (rest := (ReferenceIdeal.Hand.tlOps3 (F := Ideal)).drop 2) (wrest := ReferenceIdeal.Hand.wr_tlOps3.drop 2) (y := ReferenceIdeal.main_c_210) rfl rfl (by decide +kernel)
  rw [eK, eR]
  try rfl
theorem h2 : StableHlo.after (KernelIdeal.Tail.ks3 (F := Ideal)) WK (Proc.devRef .tc KernelIdeal.main_v481) = StableHlo.after (ReferenceIdeal.Hand.tlOps3 (F := Ideal)) WR (Proc.devRef .tc ReferenceIdeal.main_v572) :=
  by
  have eK := final_unary (KernelIdeal.Tail.writes_ks3 (F := Ideal)) WK 7 (rest := (KernelIdeal.Tail.ks3 (F := Ideal)).drop 8) (wrest := KernelIdeal.Tail.wr_ks3.drop 8) (y := KernelIdeal.main_v481) (x := KernelIdeal.main_c_191) rfl rfl (by decide +kernel) (by decide +kernel)
  have eR := final_unary (ReferenceIdeal.Hand.writes_tlOps3 (F := Ideal)) WR 2 (rest := (ReferenceIdeal.Hand.tlOps3 (F := Ideal)).drop 3) (wrest := ReferenceIdeal.Hand.wr_tlOps3.drop 3) (y := ReferenceIdeal.main_v572) (x := ReferenceIdeal.main_c_210) rfl rfl (by decide +kernel) (by decide +kernel)
  rw [eK, eR, h1 WK WR hP hLin hVal]
  try rfl
theorem h3 : StableHlo.after (KernelIdeal.Tail.ks3 (F := Ideal)) WK (Proc.devRef .tc KernelIdeal.main_c_192) = StableHlo.after (ReferenceIdeal.Hand.tlOps3 (F := Ideal)) WR (Proc.devRef .tc ReferenceIdeal.main_c_211) :=
  by
  have eK := final_nullary (KernelIdeal.Tail.writes_ks3 (F := Ideal)) WK 8 (rest := (KernelIdeal.Tail.ks3 (F := Ideal)).drop 9) (wrest := KernelIdeal.Tail.wr_ks3.drop 9) (y := KernelIdeal.main_c_192) rfl rfl (by decide +kernel)
  have eR := final_nullary (ReferenceIdeal.Hand.writes_tlOps3 (F := Ideal)) WR 3 (rest := (ReferenceIdeal.Hand.tlOps3 (F := Ideal)).drop 4) (wrest := ReferenceIdeal.Hand.wr_tlOps3.drop 4) (y := ReferenceIdeal.main_c_211) rfl rfl (by decide +kernel)
  rw [eK, eR]
  try rfl
theorem h4 : StableHlo.after (KernelIdeal.Tail.ks3 (F := Ideal)) WK (Proc.devRef .tc KernelIdeal.main_v482) = StableHlo.after (ReferenceIdeal.Hand.tlOps3 (F := Ideal)) WR (Proc.devRef .tc ReferenceIdeal.main_v573) :=
  by
  have eK := final_unary (KernelIdeal.Tail.writes_ks3 (F := Ideal)) WK 9 (rest := (KernelIdeal.Tail.ks3 (F := Ideal)).drop 10) (wrest := KernelIdeal.Tail.wr_ks3.drop 10) (y := KernelIdeal.main_v482) (x := KernelIdeal.main_c_192) rfl rfl (by decide +kernel) (by decide +kernel)
  have eR := final_unary (ReferenceIdeal.Hand.writes_tlOps3 (F := Ideal)) WR 4 (rest := (ReferenceIdeal.Hand.tlOps3 (F := Ideal)).drop 5) (wrest := ReferenceIdeal.Hand.wr_tlOps3.drop 5) (y := ReferenceIdeal.main_v573) (x := ReferenceIdeal.main_c_211) rfl rfl (by decide +kernel) (by decide +kernel)
  rw [eK, eR, h3 WK WR hP hLin hVal]
  try rfl
theorem h5 : StableHlo.after (KernelIdeal.Tail.ks3 (F := Ideal)) WK (Proc.devRef .tc KernelIdeal.main_v483) = StableHlo.after (ReferenceIdeal.Hand.tlOps3 (F := Ideal)) WR (Proc.devRef .tc ReferenceIdeal.main_v574) :=
  by
  have eK := final_binary (KernelIdeal.Tail.writes_ks3 (F := Ideal)) WK 10 (rest := (KernelIdeal.Tail.ks3 (F := Ideal)).drop 11) (wrest := KernelIdeal.Tail.wr_ks3.drop 11) (y := KernelIdeal.main_v483) (a := KernelIdeal.main_v477) (b := KernelIdeal.main_v482) rfl rfl (by decide +kernel) (by decide +kernel) (by decide +kernel)
  have eR := final_binary (ReferenceIdeal.Hand.writes_tlOps3 (F := Ideal)) WR 5 (rest := (ReferenceIdeal.Hand.tlOps3 (F := Ideal)).drop 6) (wrest := ReferenceIdeal.Hand.wr_tlOps3.drop 6) (y := ReferenceIdeal.main_v574) (a := ReferenceIdeal.main_v570) (b := ReferenceIdeal.main_v573) rfl rfl (by decide +kernel) (by decide +kernel) (by decide +kernel)
  rw [eK, eR, hLin, h4 WK WR hP hLin hVal]
  try rfl
theorem h6 : StableHlo.after (KernelIdeal.Tail.ks3 (F := Ideal)) WK (Proc.devRef .tc KernelIdeal.main_c_193) = StableHlo.after (ReferenceIdeal.Hand.tlOps3 (F := Ideal)) WR (Proc.devRef .tc ReferenceIdeal.main_c_212) :=
  by
  have eK := final_nullary (KernelIdeal.Tail.writes_ks3 (F := Ideal)) WK 11 (rest := (KernelIdeal.Tail.ks3 (F := Ideal)).drop 12) (wrest := KernelIdeal.Tail.wr_ks3.drop 12) (y := KernelIdeal.main_c_193) rfl rfl (by decide +kernel)
  have eR := final_nullary (ReferenceIdeal.Hand.writes_tlOps3 (F := Ideal)) WR 6 (rest := (ReferenceIdeal.Hand.tlOps3 (F := Ideal)).drop 7) (wrest := ReferenceIdeal.Hand.wr_tlOps3.drop 7) (y := ReferenceIdeal.main_c_212) rfl rfl (by decide +kernel)
  rw [eK, eR]
  try rfl
theorem h7 : StableHlo.after (KernelIdeal.Tail.ks3 (F := Ideal)) WK (Proc.devRef .tc KernelIdeal.main_v484) = StableHlo.after (ReferenceIdeal.Hand.tlOps3 (F := Ideal)) WR (Proc.devRef .tc ReferenceIdeal.main_v575) :=
  by
  have eK := final_unary (KernelIdeal.Tail.writes_ks3 (F := Ideal)) WK 12 (rest := (KernelIdeal.Tail.ks3 (F := Ideal)).drop 13) (wrest := KernelIdeal.Tail.wr_ks3.drop 13) (y := KernelIdeal.main_v484) (x := KernelIdeal.main_c_193) rfl rfl (by decide +kernel) (by decide +kernel)
  have eR := final_unary (ReferenceIdeal.Hand.writes_tlOps3 (F := Ideal)) WR 7 (rest := (ReferenceIdeal.Hand.tlOps3 (F := Ideal)).drop 8) (wrest := ReferenceIdeal.Hand.wr_tlOps3.drop 8) (y := ReferenceIdeal.main_v575) (x := ReferenceIdeal.main_c_212) rfl rfl (by decide +kernel) (by decide +kernel)
  rw [eK, eR, h6 WK WR hP hLin hVal]
  try rfl
theorem h8 : StableHlo.after (KernelIdeal.Tail.ks3 (F := Ideal)) WK (Proc.devRef .tc KernelIdeal.main_v485) = StableHlo.after (ReferenceIdeal.Hand.tlOps3 (F := Ideal)) WR (Proc.devRef .tc ReferenceIdeal.main_v576) :=
  by
  have eK := final_binary (KernelIdeal.Tail.writes_ks3 (F := Ideal)) WK 13 (rest := (KernelIdeal.Tail.ks3 (F := Ideal)).drop 14) (wrest := KernelIdeal.Tail.wr_ks3.drop 14) (y := KernelIdeal.main_v485) (a := KernelIdeal.main_v477) (b := KernelIdeal.main_v484) rfl rfl (by decide +kernel) (by decide +kernel) (by decide +kernel)
  have eR := final_binary (ReferenceIdeal.Hand.writes_tlOps3 (F := Ideal)) WR 8 (rest := (ReferenceIdeal.Hand.tlOps3 (F := Ideal)).drop 9) (wrest := ReferenceIdeal.Hand.wr_tlOps3.drop 9) (y := ReferenceIdeal.main_v576) (a := ReferenceIdeal.main_v570) (b := ReferenceIdeal.main_v575) rfl rfl (by decide +kernel) (by decide +kernel) (by decide +kernel)
  rw [eK, eR, hLin, h7 WK WR hP hLin hVal]
  try rfl
theorem h9 : StableHlo.after (KernelIdeal.Tail.ks3 (F := Ideal)) WK (Proc.devRef .tc KernelIdeal.main_v486) = StableHlo.after (ReferenceIdeal.Hand.tlOps3 (F := Ideal)) WR (Proc.devRef .tc ReferenceIdeal.main_v577) :=
  by
  have eK := final_ternary (KernelIdeal.Tail.writes_ks3 (F := Ideal)) WK 14 (rest := (KernelIdeal.Tail.ks3 (F := Ideal)).drop 15) (wrest := KernelIdeal.Tail.wr_ks3.drop 15) (y := KernelIdeal.main_v486) (c := KernelIdeal.main_v483) (a := KernelIdeal.main_v485) (b := KernelIdeal.main_v477) rfl rfl (by decide +kernel) (by decide +kernel) (by decide +kernel) (by decide +kernel)
  have eR := final_ternary (ReferenceIdeal.Hand.writes_tlOps3 (F := Ideal)) WR 9 (rest := (ReferenceIdeal.Hand.tlOps3 (F := Ideal)).drop 10) (wrest := ReferenceIdeal.Hand.wr_tlOps3.drop 10) (y := ReferenceIdeal.main_v577) (c := ReferenceIdeal.main_v574) (a := ReferenceIdeal.main_v576) (b := ReferenceIdeal.main_v570) rfl rfl (by decide +kernel) (by decide +kernel) (by decide +kernel) (by decide +kernel)
  rw [eK, eR, h5 WK WR hP hLin hVal, h8 WK WR hP hLin hVal, hLin]
  try rfl
theorem h10 : StableHlo.after (KernelIdeal.Tail.ks3 (F := Ideal)) WK (Proc.devRef .tc KernelIdeal.main_v487) = StableHlo.after (ReferenceIdeal.Hand.tlOps3 (F := Ideal)) WR (Proc.devRef .tc ReferenceIdeal.main_v578) :=
  by
  have eK := final_unary (KernelIdeal.Tail.writes_ks3 (F := Ideal)) WK 15 (rest := (KernelIdeal.Tail.ks3 (F := Ideal)).drop 16) (wrest := KernelIdeal.Tail.wr_ks3.drop 16) (y := KernelIdeal.main_v487) (x := KernelIdeal.main_v486) rfl rfl (by decide +kernel) (by decide +kernel)
  have eR := final_unary (ReferenceIdeal.Hand.writes_tlOps3 (F := Ideal)) WR 10 (rest := (ReferenceIdeal.Hand.tlOps3 (F := Ideal)).drop 11) (wrest := ReferenceIdeal.Hand.wr_tlOps3.drop 11) (y := ReferenceIdeal.main_v578) (x := ReferenceIdeal.main_v577) rfl rfl (by decide +kernel) (by decide +kernel)
  rw [eK, eR, h9 WK WR hP hLin hVal]
  try rfl
theorem h11 : StableHlo.after (KernelIdeal.Tail.ks3 (F := Ideal)) WK (Proc.devRef .tc KernelIdeal.main_v488) = StableHlo.after (ReferenceIdeal.Hand.tlOps3 (F := Ideal)) WR (Proc.devRef .tc ReferenceIdeal.main_v579) :=
  by
  have eK := final_ternary (KernelIdeal.Tail.writes_ks3 (F := Ideal)) WK 16 (rest := (KernelIdeal.Tail.ks3 (F := Ideal)).drop 17) (wrest := KernelIdeal.Tail.wr_ks3.drop 17) (y := KernelIdeal.main_v488) (c := KernelIdeal.main_v481) (a := KernelIdeal.main_v487) (b := KernelIdeal.main_v480) rfl rfl (by decide +kernel) (by decide +kernel) (by decide +kernel) (by decide +kernel)
  have eR := final_ternary (ReferenceIdeal.Hand.writes_tlOps3 (F := Ideal)) WR 11 (rest := (ReferenceIdeal.Hand.tlOps3 (F := Ideal)).drop 12) (wrest := ReferenceIdeal.Hand.wr_tlOps3.drop 12) (y := ReferenceIdeal.main_v579) (c := ReferenceIdeal.main_v572) (a := ReferenceIdeal.main_v578) (b := ReferenceIdeal.main_v571) rfl rfl (by decide +kernel) (by decide +kernel) (by decide +kernel) (by decide +kernel)
  rw [eK, eR, h2 WK WR hP hLin hVal, h10 WK WR hP hLin hVal, h0 WK WR hP hLin hVal]
  try rfl
theorem h12 : StableHlo.after (KernelIdeal.Tail.ks3 (F := Ideal)) WK (Proc.devRef .tc KernelIdeal.main_c_194) = StableHlo.after (ReferenceIdeal.Hand.tlOps3 (F := Ideal)) WR (Proc.devRef .tc ReferenceIdeal.main_c_213) :=
  by
  have eK := final_nullary (KernelIdeal.Tail.writes_ks3 (F := Ideal)) WK 17 (rest := (KernelIdeal.Tail.ks3 (F := Ideal)).drop 18) (wrest := KernelIdeal.Tail.wr_ks3.drop 18) (y := KernelIdeal.main_c_194) rfl rfl (by decide +kernel)
  have eR := final_nullary (ReferenceIdeal.Hand.writes_tlOps3 (F := Ideal)) WR 12 (rest := (ReferenceIdeal.Hand.tlOps3 (F := Ideal)).drop 13) (wrest := ReferenceIdeal.Hand.wr_tlOps3.drop 13) (y := ReferenceIdeal.main_c_213) rfl rfl (by decide +kernel)
  rw [eK, eR]
  try rfl
theorem h13 : StableHlo.after (KernelIdeal.Tail.ks3 (F := Ideal)) WK (Proc.devRef .tc KernelIdeal.main_v489) = StableHlo.after (ReferenceIdeal.Hand.tlOps3 (F := Ideal)) WR (Proc.devRef .tc ReferenceIdeal.main_v580) :=
  by
  have eK := final_unary (KernelIdeal.Tail.writes_ks3 (F := Ideal)) WK 18 (rest := (KernelIdeal.Tail.ks3 (F := Ideal)).drop 19) (wrest := KernelIdeal.Tail.wr_ks3.drop 19) (y := KernelIdeal.main_v489) (x := KernelIdeal.main_c_194) rfl rfl (by decide +kernel) (by decide +kernel)
  have eR := final_unary (ReferenceIdeal.Hand.writes_tlOps3 (F := Ideal)) WR 13 (rest := (ReferenceIdeal.Hand.tlOps3 (F := Ideal)).drop 14) (wrest := ReferenceIdeal.Hand.wr_tlOps3.drop 14) (y := ReferenceIdeal.main_v580) (x := ReferenceIdeal.main_c_213) rfl rfl (by decide +kernel) (by decide +kernel)
  rw [eK, eR, h12 WK WR hP hLin hVal]
  try rfl
theorem h14 : StableHlo.after (KernelIdeal.Tail.ks3 (F := Ideal)) WK (Proc.devRef .tc KernelIdeal.main_v490) = StableHlo.after (ReferenceIdeal.Hand.tlOps3 (F := Ideal)) WR (Proc.devRef .tc ReferenceIdeal.main_v581) :=
  by
  have eK := final_binary (KernelIdeal.Tail.writes_ks3 (F := Ideal)) WK 19 (rest := (KernelIdeal.Tail.ks3 (F := Ideal)).drop 20) (wrest := KernelIdeal.Tail.wr_ks3.drop 20) (y := KernelIdeal.main_v490) (a := KernelIdeal.main_v477) (b := KernelIdeal.main_v489) rfl rfl (by decide +kernel) (by decide +kernel) (by decide +kernel)
  have eR := final_binary (ReferenceIdeal.Hand.writes_tlOps3 (F := Ideal)) WR 14 (rest := (ReferenceIdeal.Hand.tlOps3 (F := Ideal)).drop 15) (wrest := ReferenceIdeal.Hand.wr_tlOps3.drop 15) (y := ReferenceIdeal.main_v581) (a := ReferenceIdeal.main_v570) (b := ReferenceIdeal.main_v580) rfl rfl (by decide +kernel) (by decide +kernel) (by decide +kernel)
  rw [eK, eR, hLin, h13 WK WR hP hLin hVal]
  try rfl
theorem h15 : StableHlo.after (KernelIdeal.Tail.ks3 (F := Ideal)) WK (Proc.devRef .tc KernelIdeal.main_c_195) = StableHlo.after (ReferenceIdeal.Hand.tlOps3 (F := Ideal)) WR (Proc.devRef .tc ReferenceIdeal.main_c_214) :=
  by
  have eK := final_nullary (KernelIdeal.Tail.writes_ks3 (F := Ideal)) WK 20 (rest := (KernelIdeal.Tail.ks3 (F := Ideal)).drop 21) (wrest := KernelIdeal.Tail.wr_ks3.drop 21) (y := KernelIdeal.main_c_195) rfl rfl (by decide +kernel)
  have eR := final_nullary (ReferenceIdeal.Hand.writes_tlOps3 (F := Ideal)) WR 15 (rest := (ReferenceIdeal.Hand.tlOps3 (F := Ideal)).drop 16) (wrest := ReferenceIdeal.Hand.wr_tlOps3.drop 16) (y := ReferenceIdeal.main_c_214) rfl rfl (by decide +kernel)
  rw [eK, eR]
  try rfl
theorem h16 : StableHlo.after (KernelIdeal.Tail.ks3 (F := Ideal)) WK (Proc.devRef .tc KernelIdeal.main_v491) = StableHlo.after (ReferenceIdeal.Hand.tlOps3 (F := Ideal)) WR (Proc.devRef .tc ReferenceIdeal.main_v582) :=
  by
  have eK := final_unary (KernelIdeal.Tail.writes_ks3 (F := Ideal)) WK 21 (rest := (KernelIdeal.Tail.ks3 (F := Ideal)).drop 22) (wrest := KernelIdeal.Tail.wr_ks3.drop 22) (y := KernelIdeal.main_v491) (x := KernelIdeal.main_c_195) rfl rfl (by decide +kernel) (by decide +kernel)
  have eR := final_unary (ReferenceIdeal.Hand.writes_tlOps3 (F := Ideal)) WR 16 (rest := (ReferenceIdeal.Hand.tlOps3 (F := Ideal)).drop 17) (wrest := ReferenceIdeal.Hand.wr_tlOps3.drop 17) (y := ReferenceIdeal.main_v582) (x := ReferenceIdeal.main_c_214) rfl rfl (by decide +kernel) (by decide +kernel)
  rw [eK, eR, h15 WK WR hP hLin hVal]
  try rfl
theorem h17 : StableHlo.after (KernelIdeal.Tail.ks3 (F := Ideal)) WK (Proc.devRef .tc KernelIdeal.main_v492) = StableHlo.after (ReferenceIdeal.Hand.tlOps3 (F := Ideal)) WR (Proc.devRef .tc ReferenceIdeal.main_v583) :=
  by
  have eK := final_binary (KernelIdeal.Tail.writes_ks3 (F := Ideal)) WK 22 (rest := (KernelIdeal.Tail.ks3 (F := Ideal)).drop 23) (wrest := KernelIdeal.Tail.wr_ks3.drop 23) (y := KernelIdeal.main_v492) (a := KernelIdeal.main_v477) (b := KernelIdeal.main_v491) rfl rfl (by decide +kernel) (by decide +kernel) (by decide +kernel)
  have eR := final_binary (ReferenceIdeal.Hand.writes_tlOps3 (F := Ideal)) WR 17 (rest := (ReferenceIdeal.Hand.tlOps3 (F := Ideal)).drop 18) (wrest := ReferenceIdeal.Hand.wr_tlOps3.drop 18) (y := ReferenceIdeal.main_v583) (a := ReferenceIdeal.main_v570) (b := ReferenceIdeal.main_v582) rfl rfl (by decide +kernel) (by decide +kernel) (by decide +kernel)
  rw [eK, eR, hLin, h16 WK WR hP hLin hVal]
  try rfl
theorem h18 : StableHlo.after (KernelIdeal.Tail.ks3 (F := Ideal)) WK (Proc.devRef .tc KernelIdeal.main_v493) = StableHlo.after (ReferenceIdeal.Hand.tlOps3 (F := Ideal)) WR (Proc.devRef .tc ReferenceIdeal.main_v584) :=
  by
  have eK := final_ternary (KernelIdeal.Tail.writes_ks3 (F := Ideal)) WK 23 (rest := (KernelIdeal.Tail.ks3 (F := Ideal)).drop 24) (wrest := KernelIdeal.Tail.wr_ks3.drop 24) (y := KernelIdeal.main_v493) (c := KernelIdeal.main_v490) (a := KernelIdeal.main_v492) (b := KernelIdeal.main_v477) rfl rfl (by decide +kernel) (by decide +kernel) (by decide +kernel) (by decide +kernel)
  have eR := final_ternary (ReferenceIdeal.Hand.writes_tlOps3 (F := Ideal)) WR 18 (rest := (ReferenceIdeal.Hand.tlOps3 (F := Ideal)).drop 19) (wrest := ReferenceIdeal.Hand.wr_tlOps3.drop 19) (y := ReferenceIdeal.main_v584) (c := ReferenceIdeal.main_v581) (a := ReferenceIdeal.main_v583) (b := ReferenceIdeal.main_v570) rfl rfl (by decide +kernel) (by decide +kernel) (by decide +kernel) (by decide +kernel)
  rw [eK, eR, h14 WK WR hP hLin hVal, h17 WK WR hP hLin hVal, hLin]
  try rfl
theorem h19 : StableHlo.after (KernelIdeal.Tail.ks3 (F := Ideal)) WK (Proc.devRef .tc KernelIdeal.main_v494) = StableHlo.after (ReferenceIdeal.Hand.tlOps3 (F := Ideal)) WR (Proc.devRef .tc ReferenceIdeal.main_v585) :=
  by
  have eK := final_unary (KernelIdeal.Tail.writes_ks3 (F := Ideal)) WK 24 (rest := (KernelIdeal.Tail.ks3 (F := Ideal)).drop 25) (wrest := KernelIdeal.Tail.wr_ks3.drop 25) (y := KernelIdeal.main_v494) (x := KernelIdeal.main_v493) rfl rfl (by decide +kernel) (by decide +kernel)
  have eR := final_unary (ReferenceIdeal.Hand.writes_tlOps3 (F := Ideal)) WR 19 (rest := (ReferenceIdeal.Hand.tlOps3 (F := Ideal)).drop 20) (wrest := ReferenceIdeal.Hand.wr_tlOps3.drop 20) (y := ReferenceIdeal.main_v585) (x := ReferenceIdeal.main_v584) rfl rfl (by decide +kernel) (by decide +kernel)
  rw [eK, eR, h18 WK WR hP hLin hVal]
  try rfl
theorem h20 : StableHlo.after (KernelIdeal.Tail.ks3 (F := Ideal)) WK (Proc.devRef .tc KernelIdeal.main_v495) = StableHlo.after (ReferenceIdeal.Hand.tlOps3 (F := Ideal)) WR (Proc.devRef .tc ReferenceIdeal.main_v586) :=
  by
  have eK := final_binary (KernelIdeal.Tail.writes_ks3 (F := Ideal)) WK 25 (rest := (KernelIdeal.Tail.ks3 (F := Ideal)).drop 26) (wrest := KernelIdeal.Tail.wr_ks3.drop 26) (y := KernelIdeal.main_v495) (a := KernelIdeal.main_v488) (b := KernelIdeal.main_v494) rfl rfl (by decide +kernel) (by decide +kernel) (by decide +kernel)
  have eR := final_binary (ReferenceIdeal.Hand.writes_tlOps3 (F := Ideal)) WR 20 (rest := (ReferenceIdeal.Hand.tlOps3 (F := Ideal)).drop 21) (wrest := ReferenceIdeal.Hand.wr_tlOps3.drop 21) (y := ReferenceIdeal.main_v586) (a := ReferenceIdeal.main_v579) (b := ReferenceIdeal.main_v585) rfl rfl (by decide +kernel) (by decide +kernel) (by decide +kernel)
  rw [eK, eR, h11 WK WR hP hLin hVal, h19 WK WR hP hLin hVal]
  try rfl
theorem h21 : StableHlo.after (KernelIdeal.Tail.ks3 (F := Ideal)) WK (Proc.devRef .tc KernelIdeal.main_v496) = StableHlo.after (ReferenceIdeal.Hand.tlOps3 (F := Ideal)) WR (Proc.devRef .tc ReferenceIdeal.main_v587) :=
  by
  have eK := final_binary (KernelIdeal.Tail.writes_ks3 (F := Ideal)) WK 26 (rest := (KernelIdeal.Tail.ks3 (F := Ideal)).drop 27) (wrest := KernelIdeal.Tail.wr_ks3.drop 27) (y := KernelIdeal.main_v496) (a := KernelIdeal.main_v495) (b := KernelIdeal.main_v480) rfl rfl (by decide +kernel) (by decide +kernel) (by decide +kernel)
  have eR := final_binary (ReferenceIdeal.Hand.writes_tlOps3 (F := Ideal)) WR 21 (rest := (ReferenceIdeal.Hand.tlOps3 (F := Ideal)).drop 22) (wrest := ReferenceIdeal.Hand.wr_tlOps3.drop 22) (y := ReferenceIdeal.main_v587) (a := ReferenceIdeal.main_v586) (b := ReferenceIdeal.main_v571) rfl rfl (by decide +kernel) (by decide +kernel) (by decide +kernel)
  rw [eK, eR, h20 WK WR hP hLin hVal, h0 WK WR hP hLin hVal]
  try rfl
theorem h22 : StableHlo.after (KernelIdeal.Tail.ks3 (F := Ideal)) WK (Proc.devRef .tc KernelIdeal.main_v497) = StableHlo.after (ReferenceIdeal.Hand.tlOps3 (F := Ideal)) WR (Proc.devRef .tc ReferenceIdeal.main_v588) :=
  by
  have eK := final_binary (KernelIdeal.Tail.writes_ks3 (F := Ideal)) WK 27 (rest := (KernelIdeal.Tail.ks3 (F := Ideal)).drop 28) (wrest := KernelIdeal.Tail.wr_ks3.drop 28) (y := KernelIdeal.main_v497) (a := KernelIdeal.main_v479) (b := KernelIdeal.main_v496) rfl rfl (by decide +kernel) (by decide +kernel) (by decide +kernel)
  have eR := final_binary (ReferenceIdeal.Hand.writes_tlOps3 (F := Ideal)) WR 22 (rest := (ReferenceIdeal.Hand.tlOps3 (F := Ideal)).drop 23) (wrest := ReferenceIdeal.Hand.wr_tlOps3.drop 23) (y := ReferenceIdeal.main_v588) (a := ReferenceIdeal.main_v557) (b := ReferenceIdeal.main_v587) rfl rfl (by decide +kernel) (by decide +kernel) (by decide +kernel)
  rw [eK, eR, hVal, h21 WK WR hP hLin hVal]
  try rfl
theorem h23 : StableHlo.after (KernelIdeal.Tail.ks3 (F := Ideal)) WK (Proc.devRef .tc KernelIdeal.main_v498) = StableHlo.after (ReferenceIdeal.Hand.tlOps3 (F := Ideal)) WR (Proc.devRef .tc ReferenceIdeal.main_v589) :=
  by
  have eK := final_unary (KernelIdeal.Tail.writes_ks3 (F := Ideal)) WK 28 (rest := (KernelIdeal.Tail.ks3 (F := Ideal)).drop 29) (wrest := KernelIdeal.Tail.wr_ks3.drop 29) (y := KernelIdeal.main_v498) (x := KernelIdeal.main_v497) rfl rfl (by decide +kernel) (by decide +kernel)
  have eR := final_unary (ReferenceIdeal.Hand.writes_tlOps3 (F := Ideal)) WR 23 (rest := (ReferenceIdeal.Hand.tlOps3 (F := Ideal)).drop 24) (wrest := ReferenceIdeal.Hand.wr_tlOps3.drop 24) (y := ReferenceIdeal.main_v589) (x := ReferenceIdeal.main_v588) rfl rfl (by decide +kernel) (by decide +kernel)
  rw [eK, eR, h22 WK WR hP hLin hVal]
  try rfl
theorem h24 : StableHlo.after (KernelIdeal.Tail.ks3 (F := Ideal)) WK (Proc.devRef .tc KernelIdeal.main_call57_call0_c) = StableHlo.after (ReferenceIdeal.Hand.tlOps3 (F := Ideal)) WR (Proc.devRef .tc ReferenceIdeal.main_call61_call0_c) :=
  by
  have eK := final_nullary (KernelIdeal.Tail.writes_ks3 (F := Ideal)) WK 29 (rest := (KernelIdeal.Tail.ks3 (F := Ideal)).drop 30) (wrest := KernelIdeal.Tail.wr_ks3.drop 30) (y := KernelIdeal.main_call57_call0_c) rfl rfl (by decide +kernel)
  have eR := final_nullary (ReferenceIdeal.Hand.writes_tlOps3 (F := Ideal)) WR 24 (rest := (ReferenceIdeal.Hand.tlOps3 (F := Ideal)).drop 25) (wrest := ReferenceIdeal.Hand.wr_tlOps3.drop 25) (y := ReferenceIdeal.main_call61_call0_c) rfl rfl (by decide +kernel)
  rw [eK, eR]
  try rfl
theorem h25 : StableHlo.after (KernelIdeal.Tail.ks3 (F := Ideal)) WK (Proc.devRef .tc KernelIdeal.main_call57_call0_v0) = StableHlo.after (ReferenceIdeal.Hand.tlOps3 (F := Ideal)) WR (Proc.devRef .tc ReferenceIdeal.main_call61_call0_v0) :=
  by
  have eK := final_unary (KernelIdeal.Tail.writes_ks3 (F := Ideal)) WK 30 (rest := (KernelIdeal.Tail.ks3 (F := Ideal)).drop 31) (wrest := KernelIdeal.Tail.wr_ks3.drop 31) (y := KernelIdeal.main_call57_call0_v0) (x := KernelIdeal.main_call57_call0_c) rfl rfl (by decide +kernel) (by decide +kernel)
  have eR := final_unary (ReferenceIdeal.Hand.writes_tlOps3 (F := Ideal)) WR 25 (rest := (ReferenceIdeal.Hand.tlOps3 (F := Ideal)).drop 26) (wrest := ReferenceIdeal.Hand.wr_tlOps3.drop 26) (y := ReferenceIdeal.main_call61_call0_v0) (x := ReferenceIdeal.main_call61_call0_c) rfl rfl (by decide +kernel) (by decide +kernel)
  rw [eK, eR, h24 WK WR hP hLin hVal]
  try rfl
theorem h26 : StableHlo.after (KernelIdeal.Tail.ks3 (F := Ideal)) WK (Proc.devRef .tc KernelIdeal.main_v499) = StableHlo.after (ReferenceIdeal.Hand.tlOps3 (F := Ideal)) WR (Proc.devRef .tc ReferenceIdeal.main_v590) :=
  by
  have eK := final_binary (KernelIdeal.Tail.writes_ks3 (F := Ideal)) WK 31 (rest := (KernelIdeal.Tail.ks3 (F := Ideal)).drop 32) (wrest := KernelIdeal.Tail.wr_ks3.drop 32) (y := KernelIdeal.main_v499) (a := KernelIdeal.main_v498) (b := KernelIdeal.main_call57_call0_v0) rfl rfl (by decide +kernel) (by decide +kernel) (by decide +kernel)
  have eR := final_binary (ReferenceIdeal.Hand.writes_tlOps3 (F := Ideal)) WR 26 (rest := (ReferenceIdeal.Hand.tlOps3 (F := Ideal)).drop 27) (wrest := ReferenceIdeal.Hand.wr_tlOps3.drop 27) (y := ReferenceIdeal.main_v590) (a := ReferenceIdeal.main_v589) (b := ReferenceIdeal.main_call61_call0_v0) rfl rfl (by decide +kernel) (by decide +kernel) (by decide +kernel)
  rw [eK, eR, h23 WK WR hP hLin hVal, h25 WK WR hP hLin hVal]
  try rfl
theorem h27 : StableHlo.after (KernelIdeal.Tail.ks3 (F := Ideal)) WK (Proc.devRef .tc KernelIdeal.main_c_196) = StableHlo.after (ReferenceIdeal.Hand.tlOps3 (F := Ideal)) WR (Proc.devRef .tc ReferenceIdeal.main_c_215) :=
  by
  have eK := final_nullary (KernelIdeal.Tail.writes_ks3 (F := Ideal)) WK 32 (rest := (KernelIdeal.Tail.ks3 (F := Ideal)).drop 33) (wrest := KernelIdeal.Tail.wr_ks3.drop 33) (y := KernelIdeal.main_c_196) rfl rfl (by decide +kernel)
  have eR := final_nullary (ReferenceIdeal.Hand.writes_tlOps3 (F := Ideal)) WR 27 (rest := (ReferenceIdeal.Hand.tlOps3 (F := Ideal)).drop 28) (wrest := ReferenceIdeal.Hand.wr_tlOps3.drop 28) (y := ReferenceIdeal.main_c_215) rfl rfl (by decide +kernel)
  rw [eK, eR]
  try rfl
theorem h28 : StableHlo.after (KernelIdeal.Tail.ks3 (F := Ideal)) WK (Proc.devRef .tc KernelIdeal.main_v500) = StableHlo.after (ReferenceIdeal.Hand.tlOps3 (F := Ideal)) WR (Proc.devRef .tc ReferenceIdeal.main_v591) :=
  by
  have eK := final_unary (KernelIdeal.Tail.writes_ks3 (F := Ideal)) WK 33 (rest := (KernelIdeal.Tail.ks3 (F := Ideal)).drop 34) (wrest := KernelIdeal.Tail.wr_ks3.drop 34) (y := KernelIdeal.main_v500) (x := KernelIdeal.main_c_196) rfl rfl (by decide +kernel) (by decide +kernel)
  have eR := final_unary (ReferenceIdeal.Hand.writes_tlOps3 (F := Ideal)) WR 28 (rest := (ReferenceIdeal.Hand.tlOps3 (F := Ideal)).drop 29) (wrest := ReferenceIdeal.Hand.wr_tlOps3.drop 29) (y := ReferenceIdeal.main_v591) (x := ReferenceIdeal.main_c_215) rfl rfl (by decide +kernel) (by decide +kernel)
  rw [eK, eR, h27 WK WR hP hLin hVal]
  try rfl
theorem h29 : StableHlo.after (KernelIdeal.Tail.ks3 (F := Ideal)) WK (Proc.devRef .tc KernelIdeal.main_v501) = StableHlo.after (ReferenceIdeal.Hand.tlOps3 (F := Ideal)) WR (Proc.devRef .tc ReferenceIdeal.main_v592) :=
  by
  have eK := final_binary (KernelIdeal.Tail.writes_ks3 (F := Ideal)) WK 34 (rest := (KernelIdeal.Tail.ks3 (F := Ideal)).drop 35) (wrest := KernelIdeal.Tail.wr_ks3.drop 35) (y := KernelIdeal.main_v501) (a := KernelIdeal.main_v499) (b := KernelIdeal.main_v500) rfl rfl (by decide +kernel) (by decide +kernel) (by decide +kernel)
  have eR := final_binary (ReferenceIdeal.Hand.writes_tlOps3 (F := Ideal)) WR 29 (rest := (ReferenceIdeal.Hand.tlOps3 (F := Ideal)).drop 30) (wrest := ReferenceIdeal.Hand.wr_tlOps3.drop 30) (y := ReferenceIdeal.main_v592) (a := ReferenceIdeal.main_v590) (b := ReferenceIdeal.main_v591) rfl rfl (by decide +kernel) (by decide +kernel) (by decide +kernel)
  rw [eK, eR, h26 WK WR hP hLin hVal, h28 WK WR hP hLin hVal]
  try rfl
theorem h30 : StableHlo.after (KernelIdeal.Tail.ks3 (F := Ideal)) WK (Proc.devRef .tc KernelIdeal.main_c_197) = StableHlo.after (ReferenceIdeal.Hand.tlOps3 (F := Ideal)) WR (Proc.devRef .tc ReferenceIdeal.main_c_216) :=
  by
  have eK := final_nullary (KernelIdeal.Tail.writes_ks3 (F := Ideal)) WK 35 (rest := (KernelIdeal.Tail.ks3 (F := Ideal)).drop 36) (wrest := KernelIdeal.Tail.wr_ks3.drop 36) (y := KernelIdeal.main_c_197) rfl rfl (by decide +kernel)
  have eR := final_nullary (ReferenceIdeal.Hand.writes_tlOps3 (F := Ideal)) WR 30 (rest := (ReferenceIdeal.Hand.tlOps3 (F := Ideal)).drop 31) (wrest := ReferenceIdeal.Hand.wr_tlOps3.drop 31) (y := ReferenceIdeal.main_c_216) rfl rfl (by decide +kernel)
  rw [eK, eR]
  try rfl
theorem h31 : StableHlo.after (KernelIdeal.Tail.ks3 (F := Ideal)) WK (Proc.devRef .tc KernelIdeal.main_v502) = StableHlo.after (ReferenceIdeal.Hand.tlOps3 (F := Ideal)) WR (Proc.devRef .tc ReferenceIdeal.main_v593) :=
  by
  have eK := final_unary (KernelIdeal.Tail.writes_ks3 (F := Ideal)) WK 36 (rest := (KernelIdeal.Tail.ks3 (F := Ideal)).drop 37) (wrest := KernelIdeal.Tail.wr_ks3.drop 37) (y := KernelIdeal.main_v502) (x := KernelIdeal.main_c_197) rfl rfl (by decide +kernel) (by decide +kernel)
  have eR := final_unary (ReferenceIdeal.Hand.writes_tlOps3 (F := Ideal)) WR 31 (rest := (ReferenceIdeal.Hand.tlOps3 (F := Ideal)).drop 32) (wrest := ReferenceIdeal.Hand.wr_tlOps3.drop 32) (y := ReferenceIdeal.main_v593) (x := ReferenceIdeal.main_c_216) rfl rfl (by decide +kernel) (by decide +kernel)
  rw [eK, eR, h30 WK WR hP hLin hVal]
  try rfl
theorem h32 : StableHlo.after (KernelIdeal.Tail.ks3 (F := Ideal)) WK (Proc.devRef .tc KernelIdeal.main_c_198) = StableHlo.after (ReferenceIdeal.Hand.tlOps3 (F := Ideal)) WR (Proc.devRef .tc ReferenceIdeal.main_c_217) :=
  by
  have eK := final_nullary (KernelIdeal.Tail.writes_ks3 (F := Ideal)) WK 37 (rest := (KernelIdeal.Tail.ks3 (F := Ideal)).drop 38) (wrest := KernelIdeal.Tail.wr_ks3.drop 38) (y := KernelIdeal.main_c_198) rfl rfl (by decide +kernel)
  have eR := final_nullary (ReferenceIdeal.Hand.writes_tlOps3 (F := Ideal)) WR 32 (rest := (ReferenceIdeal.Hand.tlOps3 (F := Ideal)).drop 33) (wrest := ReferenceIdeal.Hand.wr_tlOps3.drop 33) (y := ReferenceIdeal.main_c_217) rfl rfl (by decide +kernel)
  rw [eK, eR]
  try rfl
theorem h33 : StableHlo.after (KernelIdeal.Tail.ks3 (F := Ideal)) WK (Proc.devRef .tc KernelIdeal.main_call58_v0) = StableHlo.after (ReferenceIdeal.Hand.tlOps3 (F := Ideal)) WR (Proc.devRef .tc ReferenceIdeal.main_call62_v0) :=
  by
  have eK := final_unary (KernelIdeal.Tail.writes_ks3 (F := Ideal)) WK 38 (rest := (KernelIdeal.Tail.ks3 (F := Ideal)).drop 39) (wrest := KernelIdeal.Tail.wr_ks3.drop 39) (y := KernelIdeal.main_call58_v0) (x := KernelIdeal.main_c_198) rfl rfl (by decide +kernel) (by decide +kernel)
  have eR := final_unary (ReferenceIdeal.Hand.writes_tlOps3 (F := Ideal)) WR 33 (rest := (ReferenceIdeal.Hand.tlOps3 (F := Ideal)).drop 34) (wrest := ReferenceIdeal.Hand.wr_tlOps3.drop 34) (y := ReferenceIdeal.main_call62_v0) (x := ReferenceIdeal.main_c_217) rfl rfl (by decide +kernel) (by decide +kernel)
  rw [eK, eR, h32 WK WR hP hLin hVal]
  try rfl
theorem h34 : StableHlo.after (KernelIdeal.Tail.ks3 (F := Ideal)) WK (Proc.devRef .tc KernelIdeal.main_call58_v1) = StableHlo.after (ReferenceIdeal.Hand.tlOps3 (F := Ideal)) WR (Proc.devRef .tc ReferenceIdeal.main_call62_v1) :=
  by
  have eK := final_unary (KernelIdeal.Tail.writes_ks3 (F := Ideal)) WK 39 (rest := (KernelIdeal.Tail.ks3 (F := Ideal)).drop 40) (wrest := KernelIdeal.Tail.wr_ks3.drop 40) (y := KernelIdeal.main_call58_v1) (x := KernelIdeal.main_call58_v0) rfl rfl (by decide +kernel) (by decide +kernel)
  have eR := final_unary (ReferenceIdeal.Hand.writes_tlOps3 (F := Ideal)) WR 34 (rest := (ReferenceIdeal.Hand.tlOps3 (F := Ideal)).drop 35) (wrest := ReferenceIdeal.Hand.wr_tlOps3.drop 35) (y := ReferenceIdeal.main_call62_v1) (x := ReferenceIdeal.main_call62_v0) rfl rfl (by decide +kernel) (by decide +kernel)
  rw [eK, eR, h33 WK WR hP hLin hVal]
  try rfl
theorem h35 : StableHlo.after (KernelIdeal.Tail.ks3 (F := Ideal)) WK (Proc.devRef .tc KernelIdeal.main_v503) = StableHlo.after (ReferenceIdeal.Hand.tlOps3 (F := Ideal)) WR (Proc.devRef .tc ReferenceIdeal.main_v594) :=
  by
  have eK := final_ternary (KernelIdeal.Tail.writes_ks3 (F := Ideal)) WK 40 (rest := (KernelIdeal.Tail.ks3 (F := Ideal)).drop 41) (wrest := KernelIdeal.Tail.wr_ks3.drop 41) (y := KernelIdeal.main_v503) (c := KernelIdeal.main_v497) (a := KernelIdeal.main_v477) (b := KernelIdeal.main_call58_v1) rfl rfl (by decide +kernel) (by decide +kernel) (by decide +kernel) (by decide +kernel)
  have eR := final_ternary (ReferenceIdeal.Hand.writes_tlOps3 (F := Ideal)) WR 35 (rest := (ReferenceIdeal.Hand.tlOps3 (F := Ideal)).drop 36) (wrest := ReferenceIdeal.Hand.wr_tlOps3.drop 36) (y := ReferenceIdeal.main_v594) (c := ReferenceIdeal.main_v588) (a := ReferenceIdeal.main_v570) (b := ReferenceIdeal.main_call62_v1) rfl rfl (by decide +kernel) (by decide +kernel) (by decide +kernel) (by decide +kernel)
  rw [eK, eR, h22 WK WR hP hLin hVal, hLin, h34 WK WR hP hLin hVal]
  try rfl
theorem h36 : StableHlo.after (KernelIdeal.Tail.ks3 (F := Ideal)) WK (Proc.devRef .tc KernelIdeal.main_c_199) = StableHlo.after (ReferenceIdeal.Hand.tlOps3 (F := Ideal)) WR (Proc.devRef .tc ReferenceIdeal.main_c_218) :=
  by
  have eK := final_nullary (KernelIdeal.Tail.writes_ks3 (F := Ideal)) WK 41 (rest := (KernelIdeal.Tail.ks3 (F := Ideal)).drop 42) (wrest := KernelIdeal.Tail.wr_ks3.drop 42) (y := KernelIdeal.main_c_199) rfl rfl (by decide +kernel)
  have eR := final_nullary (ReferenceIdeal.Hand.writes_tlOps3 (F := Ideal)) WR 36 (rest := (ReferenceIdeal.Hand.tlOps3 (F := Ideal)).drop 37) (wrest := ReferenceIdeal.Hand.wr_tlOps3.drop 37) (y := ReferenceIdeal.main_c_218) rfl rfl (by decide +kernel)
  rw [eK, eR]
  try rfl
theorem h37 : StableHlo.after (KernelIdeal.Tail.ks3 (F := Ideal)) WK (Proc.devRef .tc KernelIdeal.main_v504) = StableHlo.after (ReferenceIdeal.Hand.tlOps3 (F := Ideal)) WR (Proc.devRef .tc ReferenceIdeal.main_v595) :=
  by
  have eK := final_unary (KernelIdeal.Tail.writes_ks3 (F := Ideal)) WK 42 (rest := (KernelIdeal.Tail.ks3 (F := Ideal)).drop 43) (wrest := KernelIdeal.Tail.wr_ks3.drop 43) (y := KernelIdeal.main_v504) (x := KernelIdeal.main_c_199) rfl rfl (by decide +kernel) (by decide +kernel)
  have eR := final_unary (ReferenceIdeal.Hand.writes_tlOps3 (F := Ideal)) WR 37 (rest := (ReferenceIdeal.Hand.tlOps3 (F := Ideal)).drop 38) (wrest := ReferenceIdeal.Hand.wr_tlOps3.drop 38) (y := ReferenceIdeal.main_v595) (x := ReferenceIdeal.main_c_218) rfl rfl (by decide +kernel) (by decide +kernel)
  rw [eK, eR, h36 WK WR hP hLin hVal]
  try rfl
theorem h38 : StableHlo.after (KernelIdeal.Tail.ks3 (F := Ideal)) WK (Proc.devRef .tc KernelIdeal.main_v505) = StableHlo.after (ReferenceIdeal.Hand.tlOps3 (F := Ideal)) WR (Proc.devRef .tc ReferenceIdeal.main_v596) :=
  by
  have eK := final_binary (KernelIdeal.Tail.writes_ks3 (F := Ideal)) WK 43 (rest := (KernelIdeal.Tail.ks3 (F := Ideal)).drop 44) (wrest := KernelIdeal.Tail.wr_ks3.drop 44) (y := KernelIdeal.main_v505) (a := KernelIdeal.main_v501) (b := KernelIdeal.main_v504) rfl rfl (by decide +kernel) (by decide +kernel) (by decide +kernel)
  have eR := final_binary (ReferenceIdeal.Hand.writes_tlOps3 (F := Ideal)) WR 38 (rest := (ReferenceIdeal.Hand.tlOps3 (F := Ideal)).drop 39) (wrest := ReferenceIdeal.Hand.wr_tlOps3.drop 39) (y := ReferenceIdeal.main_v596) (a := ReferenceIdeal.main_v592) (b := ReferenceIdeal.main_v595) rfl rfl (by decide +kernel) (by decide +kernel) (by decide +kernel)
  rw [eK, eR, h29 WK WR hP hLin hVal, h37 WK WR hP hLin hVal]
  try rfl
theorem h39 : StableHlo.after (KernelIdeal.Tail.ks3 (F := Ideal)) WK (Proc.devRef .tc KernelIdeal.main_c_200) = StableHlo.after (ReferenceIdeal.Hand.tlOps3 (F := Ideal)) WR (Proc.devRef .tc ReferenceIdeal.main_c_219) :=
  by
  have eK := final_nullary (KernelIdeal.Tail.writes_ks3 (F := Ideal)) WK 44 (rest := (KernelIdeal.Tail.ks3 (F := Ideal)).drop 45) (wrest := KernelIdeal.Tail.wr_ks3.drop 45) (y := KernelIdeal.main_c_200) rfl rfl (by decide +kernel)
  have eR := final_nullary (ReferenceIdeal.Hand.writes_tlOps3 (F := Ideal)) WR 39 (rest := (ReferenceIdeal.Hand.tlOps3 (F := Ideal)).drop 40) (wrest := ReferenceIdeal.Hand.wr_tlOps3.drop 40) (y := ReferenceIdeal.main_c_219) rfl rfl (by decide +kernel)
  rw [eK, eR]
  try rfl
theorem h40 : StableHlo.after (KernelIdeal.Tail.ks3 (F := Ideal)) WK (Proc.devRef .tc KernelIdeal.main_call59_v0) = StableHlo.after (ReferenceIdeal.Hand.tlOps3 (F := Ideal)) WR (Proc.devRef .tc ReferenceIdeal.main_call63_v0) :=
  by
  have eK := final_unary (KernelIdeal.Tail.writes_ks3 (F := Ideal)) WK 45 (rest := (KernelIdeal.Tail.ks3 (F := Ideal)).drop 46) (wrest := KernelIdeal.Tail.wr_ks3.drop 46) (y := KernelIdeal.main_call59_v0) (x := KernelIdeal.main_c_200) rfl rfl (by decide +kernel) (by decide +kernel)
  have eR := final_unary (ReferenceIdeal.Hand.writes_tlOps3 (F := Ideal)) WR 40 (rest := (ReferenceIdeal.Hand.tlOps3 (F := Ideal)).drop 41) (wrest := ReferenceIdeal.Hand.wr_tlOps3.drop 41) (y := ReferenceIdeal.main_call63_v0) (x := ReferenceIdeal.main_c_219) rfl rfl (by decide +kernel) (by decide +kernel)
  rw [eK, eR, h39 WK WR hP hLin hVal]
  try rfl
theorem h41 : StableHlo.after (KernelIdeal.Tail.ks3 (F := Ideal)) WK (Proc.devRef .tc KernelIdeal.main_call59_v1) = StableHlo.after (ReferenceIdeal.Hand.tlOps3 (F := Ideal)) WR (Proc.devRef .tc ReferenceIdeal.main_call63_v1) :=
  by
  have eK := final_unary (KernelIdeal.Tail.writes_ks3 (F := Ideal)) WK 46 (rest := (KernelIdeal.Tail.ks3 (F := Ideal)).drop 47) (wrest := KernelIdeal.Tail.wr_ks3.drop 47) (y := KernelIdeal.main_call59_v1) (x := KernelIdeal.main_call59_v0) rfl rfl (by decide +kernel) (by decide +kernel)
  have eR := final_unary (ReferenceIdeal.Hand.writes_tlOps3 (F := Ideal)) WR 41 (rest := (ReferenceIdeal.Hand.tlOps3 (F := Ideal)).drop 42) (wrest := ReferenceIdeal.Hand.wr_tlOps3.drop 42) (y := ReferenceIdeal.main_call63_v1) (x := ReferenceIdeal.main_call63_v0) rfl rfl (by decide +kernel) (by decide +kernel)
  rw [eK, eR, h40 WK WR hP hLin hVal]
  try rfl
theorem h42 : StableHlo.after (KernelIdeal.Tail.ks3 (F := Ideal)) WK (Proc.devRef .tc KernelIdeal.main_v506) = StableHlo.after (ReferenceIdeal.Hand.tlOps3 (F := Ideal)) WR (Proc.devRef .tc ReferenceIdeal.main_v597) :=
  by
  have eK := final_ternary (KernelIdeal.Tail.writes_ks3 (F := Ideal)) WK 47 (rest := (KernelIdeal.Tail.ks3 (F := Ideal)).drop 48) (wrest := KernelIdeal.Tail.wr_ks3.drop 48) (y := KernelIdeal.main_v506) (c := KernelIdeal.main_v497) (a := KernelIdeal.main_v505) (b := KernelIdeal.main_call59_v1) rfl rfl (by decide +kernel) (by decide +kernel) (by decide +kernel) (by decide +kernel)
  have eR := final_ternary (ReferenceIdeal.Hand.writes_tlOps3 (F := Ideal)) WR 42 (rest := (ReferenceIdeal.Hand.tlOps3 (F := Ideal)).drop 43) (wrest := ReferenceIdeal.Hand.wr_tlOps3.drop 43) (y := ReferenceIdeal.main_v597) (c := ReferenceIdeal.main_v588) (a := ReferenceIdeal.main_v596) (b := ReferenceIdeal.main_call63_v1) rfl rfl (by decide +kernel) (by decide +kernel) (by decide +kernel) (by decide +kernel)
  rw [eK, eR, h22 WK WR hP hLin hVal, h38 WK WR hP hLin hVal, h41 WK WR hP hLin hVal]
  try rfl
theorem h43 : StableHlo.after (KernelIdeal.Tail.ks3 (F := Ideal)) WK (Proc.devRef .tc KernelIdeal.main_c_201) = StableHlo.after (ReferenceIdeal.Hand.tlOps3 (F := Ideal)) WR (Proc.devRef .tc ReferenceIdeal.main_c_220) :=
  by
  have eK := final_nullary (KernelIdeal.Tail.writes_ks3 (F := Ideal)) WK 48 (rest := (KernelIdeal.Tail.ks3 (F := Ideal)).drop 49) (wrest := KernelIdeal.Tail.wr_ks3.drop 49) (y := KernelIdeal.main_c_201) rfl rfl (by decide +kernel)
  have eR := final_nullary (ReferenceIdeal.Hand.writes_tlOps3 (F := Ideal)) WR 43 (rest := (ReferenceIdeal.Hand.tlOps3 (F := Ideal)).drop 44) (wrest := ReferenceIdeal.Hand.wr_tlOps3.drop 44) (y := ReferenceIdeal.main_c_220) rfl rfl (by decide +kernel)
  rw [eK, eR]
  try rfl
theorem h44 : StableHlo.after (KernelIdeal.Tail.ks3 (F := Ideal)) WK (Proc.devRef .tc KernelIdeal.main_v507) = StableHlo.after (ReferenceIdeal.Hand.tlOps3 (F := Ideal)) WR (Proc.devRef .tc ReferenceIdeal.main_v598) :=
  by
  have eK := final_unary (KernelIdeal.Tail.writes_ks3 (F := Ideal)) WK 49 (rest := (KernelIdeal.Tail.ks3 (F := Ideal)).drop 50) (wrest := KernelIdeal.Tail.wr_ks3.drop 50) (y := KernelIdeal.main_v507) (x := KernelIdeal.main_c_201) rfl rfl (by decide +kernel) (by decide +kernel)
  have eR := final_unary (ReferenceIdeal.Hand.writes_tlOps3 (F := Ideal)) WR 44 (rest := (ReferenceIdeal.Hand.tlOps3 (F := Ideal)).drop 45) (wrest := ReferenceIdeal.Hand.wr_tlOps3.drop 45) (y := ReferenceIdeal.main_v598) (x := ReferenceIdeal.main_c_220) rfl rfl (by decide +kernel) (by decide +kernel)
  rw [eK, eR, h43 WK WR hP hLin hVal]
  try rfl
theorem h45 : StableHlo.after (KernelIdeal.Tail.ks3 (F := Ideal)) WK (Proc.devRef .tc KernelIdeal.main_v508) = StableHlo.after (ReferenceIdeal.Hand.tlOps3 (F := Ideal)) WR (Proc.devRef .tc ReferenceIdeal.main_v599) :=
  by
  have eK := final_binary (KernelIdeal.Tail.writes_ks3 (F := Ideal)) WK 50 (rest := (KernelIdeal.Tail.ks3 (F := Ideal)).drop 51) (wrest := KernelIdeal.Tail.wr_ks3.drop 51) (y := KernelIdeal.main_v508) (a := KernelIdeal.main_v503) (b := KernelIdeal.main_v507) rfl rfl (by decide +kernel) (by decide +kernel) (by decide +kernel)
  have eR := final_binary (ReferenceIdeal.Hand.writes_tlOps3 (F := Ideal)) WR 45 (rest := (ReferenceIdeal.Hand.tlOps3 (F := Ideal)).drop 46) (wrest := ReferenceIdeal.Hand.wr_tlOps3.drop 46) (y := ReferenceIdeal.main_v599) (a := ReferenceIdeal.main_v594) (b := ReferenceIdeal.main_v598) rfl rfl (by decide +kernel) (by decide +kernel) (by decide +kernel)
  rw [eK, eR, h35 WK WR hP hLin hVal, h44 WK WR hP hLin hVal]
  try rfl
theorem h46 : StableHlo.after (KernelIdeal.Tail.ks3 (F := Ideal)) WK (Proc.devRef .tc KernelIdeal.main_c_202) = StableHlo.after (ReferenceIdeal.Hand.tlOps3 (F := Ideal)) WR (Proc.devRef .tc ReferenceIdeal.main_c_221) :=
  by
  have eK := final_nullary (KernelIdeal.Tail.writes_ks3 (F := Ideal)) WK 51 (rest := (KernelIdeal.Tail.ks3 (F := Ideal)).drop 52) (wrest := KernelIdeal.Tail.wr_ks3.drop 52) (y := KernelIdeal.main_c_202) rfl rfl (by decide +kernel)
  have eR := final_nullary (ReferenceIdeal.Hand.writes_tlOps3 (F := Ideal)) WR 46 (rest := (ReferenceIdeal.Hand.tlOps3 (F := Ideal)).drop 47) (wrest := ReferenceIdeal.Hand.wr_tlOps3.drop 47) (y := ReferenceIdeal.main_c_221) rfl rfl (by decide +kernel)
  rw [eK, eR]
  try rfl
theorem h47 : StableHlo.after (KernelIdeal.Tail.ks3 (F := Ideal)) WK (Proc.devRef .tc KernelIdeal.main_v509) = StableHlo.after (ReferenceIdeal.Hand.tlOps3 (F := Ideal)) WR (Proc.devRef .tc ReferenceIdeal.main_v600) :=
  by
  have eK := final_unary (KernelIdeal.Tail.writes_ks3 (F := Ideal)) WK 52 (rest := (KernelIdeal.Tail.ks3 (F := Ideal)).drop 53) (wrest := KernelIdeal.Tail.wr_ks3.drop 53) (y := KernelIdeal.main_v509) (x := KernelIdeal.main_c_202) rfl rfl (by decide +kernel) (by decide +kernel)
  have eR := final_unary (ReferenceIdeal.Hand.writes_tlOps3 (F := Ideal)) WR 47 (rest := (ReferenceIdeal.Hand.tlOps3 (F := Ideal)).drop 48) (wrest := ReferenceIdeal.Hand.wr_tlOps3.drop 48) (y := ReferenceIdeal.main_v600) (x := ReferenceIdeal.main_c_221) rfl rfl (by decide +kernel) (by decide +kernel)
  rw [eK, eR, h46 WK WR hP hLin hVal]
  try rfl
theorem h48 : StableHlo.after (KernelIdeal.Tail.ks3 (F := Ideal)) WK (Proc.devRef .tc KernelIdeal.main_v510) = StableHlo.after (ReferenceIdeal.Hand.tlOps3 (F := Ideal)) WR (Proc.devRef .tc ReferenceIdeal.main_v601) :=
  by
  have eK := final_binary (KernelIdeal.Tail.writes_ks3 (F := Ideal)) WK 53 (rest := (KernelIdeal.Tail.ks3 (F := Ideal)).drop 54) (wrest := KernelIdeal.Tail.wr_ks3.drop 54) (y := KernelIdeal.main_v510) (a := KernelIdeal.main_v503) (b := KernelIdeal.main_v509) rfl rfl (by decide +kernel) (by decide +kernel) (by decide +kernel)
  have eR := final_binary (ReferenceIdeal.Hand.writes_tlOps3 (F := Ideal)) WR 48 (rest := (ReferenceIdeal.Hand.tlOps3 (F := Ideal)).drop 49) (wrest := ReferenceIdeal.Hand.wr_tlOps3.drop 49) (y := ReferenceIdeal.main_v601) (a := ReferenceIdeal.main_v594) (b := ReferenceIdeal.main_v600) rfl rfl (by decide +kernel) (by decide +kernel) (by decide +kernel)
  rw [eK, eR, h35 WK WR hP hLin hVal, h47 WK WR hP hLin hVal]
  try rfl
theorem h49 : StableHlo.after (KernelIdeal.Tail.ks3 (F := Ideal)) WK (Proc.devRef .tc KernelIdeal.main_v511) = StableHlo.after (ReferenceIdeal.Hand.tlOps3 (F := Ideal)) WR (Proc.devRef .tc ReferenceIdeal.main_v602) :=
  by
  have eK := final_ternary (KernelIdeal.Tail.writes_ks3 (F := Ideal)) WK 54 (rest := (KernelIdeal.Tail.ks3 (F := Ideal)).drop 55) (wrest := KernelIdeal.Tail.wr_ks3.drop 55) (y := KernelIdeal.main_v511) (c := KernelIdeal.main_v508) (a := KernelIdeal.main_v510) (b := KernelIdeal.main_v503) rfl rfl (by decide +kernel) (by decide +kernel) (by decide +kernel) (by decide +kernel)
  have eR := final_ternary (ReferenceIdeal.Hand.writes_tlOps3 (F := Ideal)) WR 49 (rest := (ReferenceIdeal.Hand.tlOps3 (F := Ideal)).drop 50) (wrest := ReferenceIdeal.Hand.wr_tlOps3.drop 50) (y := ReferenceIdeal.main_v602) (c := ReferenceIdeal.main_v599) (a := ReferenceIdeal.main_v601) (b := ReferenceIdeal.main_v594) rfl rfl (by decide +kernel) (by decide +kernel) (by decide +kernel) (by decide +kernel)
  rw [eK, eR, h45 WK WR hP hLin hVal, h48 WK WR hP hLin hVal, h35 WK WR hP hLin hVal]
  try rfl
theorem h50 : StableHlo.after (KernelIdeal.Tail.ks3 (F := Ideal)) WK (Proc.devRef .tc KernelIdeal.main_v512) = StableHlo.after (ReferenceIdeal.Hand.tlOps3 (F := Ideal)) WR (Proc.devRef .tc ReferenceIdeal.main_v603) :=
  by
  have eK := final_unary (KernelIdeal.Tail.writes_ks3 (F := Ideal)) WK 55 (rest := (KernelIdeal.Tail.ks3 (F := Ideal)).drop 56) (wrest := KernelIdeal.Tail.wr_ks3.drop 56) (y := KernelIdeal.main_v512) (x := KernelIdeal.main_v511) rfl rfl (by decide +kernel) (by decide +kernel)
  have eR := final_unary (ReferenceIdeal.Hand.writes_tlOps3 (F := Ideal)) WR 50 (rest := (ReferenceIdeal.Hand.tlOps3 (F := Ideal)).drop 51) (wrest := ReferenceIdeal.Hand.wr_tlOps3.drop 51) (y := ReferenceIdeal.main_v603) (x := ReferenceIdeal.main_v602) rfl rfl (by decide +kernel) (by decide +kernel)
  rw [eK, eR, h49 WK WR hP hLin hVal]
  try rfl
theorem h51 : StableHlo.after (KernelIdeal.Tail.ks3 (F := Ideal)) WK (Proc.devRef .tc KernelIdeal.main_v513) = StableHlo.after (ReferenceIdeal.Hand.tlOps3 (F := Ideal)) WR (Proc.devRef .tc ReferenceIdeal.main_v604) :=
  by
  have eK := final_ternary (KernelIdeal.Tail.writes_ks3 (F := Ideal)) WK 56 (rest := (KernelIdeal.Tail.ks3 (F := Ideal)).drop 57) (wrest := KernelIdeal.Tail.wr_ks3.drop 57) (y := KernelIdeal.main_v513) (c := KernelIdeal.main_v502) (a := KernelIdeal.main_v512) (b := KernelIdeal.main_v506) rfl rfl (by decide +kernel) (by decide +kernel) (by decide +kernel) (by decide +kernel)
  have eR := final_ternary (ReferenceIdeal.Hand.writes_tlOps3 (F := Ideal)) WR 51 (rest := (ReferenceIdeal.Hand.tlOps3 (F := Ideal)).drop 52) (wrest := ReferenceIdeal.Hand.wr_tlOps3.drop 52) (y := ReferenceIdeal.main_v604) (c := ReferenceIdeal.main_v593) (a := ReferenceIdeal.main_v603) (b := ReferenceIdeal.main_v597) rfl rfl (by decide +kernel) (by decide +kernel) (by decide +kernel) (by decide +kernel)
  rw [eK, eR, h31 WK WR hP hLin hVal, h50 WK WR hP hLin hVal, h42 WK WR hP hLin hVal]
  try rfl
theorem h52 : StableHlo.after (KernelIdeal.Tail.ks3 (F := Ideal)) WK (Proc.devRef .tc KernelIdeal.main_c_203) = StableHlo.after (ReferenceIdeal.Hand.tlOps3 (F := Ideal)) WR (Proc.devRef .tc ReferenceIdeal.main_c_222) :=
  by
  have eK := final_nullary (KernelIdeal.Tail.writes_ks3 (F := Ideal)) WK 57 (rest := (KernelIdeal.Tail.ks3 (F := Ideal)).drop 58) (wrest := KernelIdeal.Tail.wr_ks3.drop 58) (y := KernelIdeal.main_c_203) rfl rfl (by decide +kernel)
  have eR := final_nullary (ReferenceIdeal.Hand.writes_tlOps3 (F := Ideal)) WR 52 (rest := (ReferenceIdeal.Hand.tlOps3 (F := Ideal)).drop 53) (wrest := ReferenceIdeal.Hand.wr_tlOps3.drop 53) (y := ReferenceIdeal.main_c_222) rfl rfl (by decide +kernel)
  rw [eK, eR]
  try rfl
theorem h53 : StableHlo.after (KernelIdeal.Tail.ks3 (F := Ideal)) WK (Proc.devRef .tc KernelIdeal.main_v514) = StableHlo.after (ReferenceIdeal.Hand.tlOps3 (F := Ideal)) WR (Proc.devRef .tc ReferenceIdeal.main_v605) :=
  by
  have eK := final_unary (KernelIdeal.Tail.writes_ks3 (F := Ideal)) WK 58 (rest := (KernelIdeal.Tail.ks3 (F := Ideal)).drop 59) (wrest := KernelIdeal.Tail.wr_ks3.drop 59) (y := KernelIdeal.main_v514) (x := KernelIdeal.main_c_203) rfl rfl (by decide +kernel) (by decide +kernel)
  have eR := final_unary (ReferenceIdeal.Hand.writes_tlOps3 (F := Ideal)) WR 53 (rest := (ReferenceIdeal.Hand.tlOps3 (F := Ideal)).drop 54) (wrest := ReferenceIdeal.Hand.wr_tlOps3.drop 54) (y := ReferenceIdeal.main_v605) (x := ReferenceIdeal.main_c_222) rfl rfl (by decide +kernel) (by decide +kernel)
  rw [eK, eR, h52 WK WR hP hLin hVal]
  try rfl
theorem h54 : StableHlo.after (KernelIdeal.Tail.ks3 (F := Ideal)) WK (Proc.devRef .tc KernelIdeal.main_v515) = StableHlo.after (ReferenceIdeal.Hand.tlOps3 (F := Ideal)) WR (Proc.devRef .tc ReferenceIdeal.main_v606) :=
  by
  have eK := final_binary (KernelIdeal.Tail.writes_ks3 (F := Ideal)) WK 59 (rest := (KernelIdeal.Tail.ks3 (F := Ideal)).drop 60) (wrest := KernelIdeal.Tail.wr_ks3.drop 60) (y := KernelIdeal.main_v515) (a := KernelIdeal.main_v477) (b := KernelIdeal.main_v514) rfl rfl (by decide +kernel) (by decide +kernel) (by decide +kernel)
  have eR := final_binary (ReferenceIdeal.Hand.writes_tlOps3 (F := Ideal)) WR 54 (rest := (ReferenceIdeal.Hand.tlOps3 (F := Ideal)).drop 55) (wrest := ReferenceIdeal.Hand.wr_tlOps3.drop 55) (y := ReferenceIdeal.main_v606) (a := ReferenceIdeal.main_v570) (b := ReferenceIdeal.main_v605) rfl rfl (by decide +kernel) (by decide +kernel) (by decide +kernel)
  rw [eK, eR, hLin, h53 WK WR hP hLin hVal]
  try rfl
theorem h55 : StableHlo.after (KernelIdeal.Tail.ks3 (F := Ideal)) WK (Proc.devRef .tc KernelIdeal.main_c_204) = StableHlo.after (ReferenceIdeal.Hand.tlOps3 (F := Ideal)) WR (Proc.devRef .tc ReferenceIdeal.main_c_223) :=
  by
  have eK := final_nullary (KernelIdeal.Tail.writes_ks3 (F := Ideal)) WK 60 (rest := (KernelIdeal.Tail.ks3 (F := Ideal)).drop 61) (wrest := KernelIdeal.Tail.wr_ks3.drop 61) (y := KernelIdeal.main_c_204) rfl rfl (by decide +kernel)
  have eR := final_nullary (ReferenceIdeal.Hand.writes_tlOps3 (F := Ideal)) WR 55 (rest := (ReferenceIdeal.Hand.tlOps3 (F := Ideal)).drop 56) (wrest := ReferenceIdeal.Hand.wr_tlOps3.drop 56) (y := ReferenceIdeal.main_c_223) rfl rfl (by decide +kernel)
  rw [eK, eR]
  try rfl
theorem h56 : StableHlo.after (KernelIdeal.Tail.ks3 (F := Ideal)) WK (Proc.devRef .tc KernelIdeal.main_v516) = StableHlo.after (ReferenceIdeal.Hand.tlOps3 (F := Ideal)) WR (Proc.devRef .tc ReferenceIdeal.main_v607) :=
  by
  have eK := final_unary (KernelIdeal.Tail.writes_ks3 (F := Ideal)) WK 61 (rest := (KernelIdeal.Tail.ks3 (F := Ideal)).drop 62) (wrest := KernelIdeal.Tail.wr_ks3.drop 62) (y := KernelIdeal.main_v516) (x := KernelIdeal.main_c_204) rfl rfl (by decide +kernel) (by decide +kernel)
  have eR := final_unary (ReferenceIdeal.Hand.writes_tlOps3 (F := Ideal)) WR 56 (rest := (ReferenceIdeal.Hand.tlOps3 (F := Ideal)).drop 57) (wrest := ReferenceIdeal.Hand.wr_tlOps3.drop 57) (y := ReferenceIdeal.main_v607) (x := ReferenceIdeal.main_c_223) rfl rfl (by decide +kernel) (by decide +kernel)
  rw [eK, eR, h55 WK WR hP hLin hVal]
  try rfl
theorem h57 : StableHlo.after (KernelIdeal.Tail.ks3 (F := Ideal)) WK (Proc.devRef .tc KernelIdeal.main_v517) = StableHlo.after (ReferenceIdeal.Hand.tlOps3 (F := Ideal)) WR (Proc.devRef .tc ReferenceIdeal.main_v608) :=
  by
  have eK := final_binary (KernelIdeal.Tail.writes_ks3 (F := Ideal)) WK 62 (rest := (KernelIdeal.Tail.ks3 (F := Ideal)).drop 63) (wrest := KernelIdeal.Tail.wr_ks3.drop 63) (y := KernelIdeal.main_v517) (a := KernelIdeal.main_v477) (b := KernelIdeal.main_v516) rfl rfl (by decide +kernel) (by decide +kernel) (by decide +kernel)
  have eR := final_binary (ReferenceIdeal.Hand.writes_tlOps3 (F := Ideal)) WR 57 (rest := (ReferenceIdeal.Hand.tlOps3 (F := Ideal)).drop 58) (wrest := ReferenceIdeal.Hand.wr_tlOps3.drop 58) (y := ReferenceIdeal.main_v608) (a := ReferenceIdeal.main_v570) (b := ReferenceIdeal.main_v607) rfl rfl (by decide +kernel) (by decide +kernel) (by decide +kernel)
  rw [eK, eR, hLin, h56 WK WR hP hLin hVal]
  try rfl
theorem h58 : StableHlo.after (KernelIdeal.Tail.ks3 (F := Ideal)) WK (Proc.devRef .tc KernelIdeal.main_v518) = StableHlo.after (ReferenceIdeal.Hand.tlOps3 (F := Ideal)) WR (Proc.devRef .tc ReferenceIdeal.main_v609) :=
  by
  have eK := final_ternary (KernelIdeal.Tail.writes_ks3 (F := Ideal)) WK 63 (rest := (KernelIdeal.Tail.ks3 (F := Ideal)).drop 64) (wrest := KernelIdeal.Tail.wr_ks3.drop 64) (y := KernelIdeal.main_v518) (c := KernelIdeal.main_v515) (a := KernelIdeal.main_v517) (b := KernelIdeal.main_v477) rfl rfl (by decide +kernel) (by decide +kernel) (by decide +kernel) (by decide +kernel)
  have eR := final_ternary (ReferenceIdeal.Hand.writes_tlOps3 (F := Ideal)) WR 58 (rest := (ReferenceIdeal.Hand.tlOps3 (F := Ideal)).drop 59) (wrest := ReferenceIdeal.Hand.wr_tlOps3.drop 59) (y := ReferenceIdeal.main_v609) (c := ReferenceIdeal.main_v606) (a := ReferenceIdeal.main_v608) (b := ReferenceIdeal.main_v570) rfl rfl (by decide +kernel) (by decide +kernel) (by decide +kernel) (by decide +kernel)
  rw [eK, eR, h54 WK WR hP hLin hVal, h57 WK WR hP hLin hVal, hLin]
  try rfl
theorem h59 : StableHlo.after (KernelIdeal.Tail.ks3 (F := Ideal)) WK (Proc.devRef .tc KernelIdeal.main_v519) = StableHlo.after (ReferenceIdeal.Hand.tlOps3 (F := Ideal)) WR (Proc.devRef .tc ReferenceIdeal.main_v610) :=
  by
  have eK := final_unary (KernelIdeal.Tail.writes_ks3 (F := Ideal)) WK 64 (rest := (KernelIdeal.Tail.ks3 (F := Ideal)).drop 65) (wrest := KernelIdeal.Tail.wr_ks3.drop 65) (y := KernelIdeal.main_v519) (x := KernelIdeal.main_v518) rfl rfl (by decide +kernel) (by decide +kernel)
  have eR := final_unary (ReferenceIdeal.Hand.writes_tlOps3 (F := Ideal)) WR 59 (rest := (ReferenceIdeal.Hand.tlOps3 (F := Ideal)).drop 60) (wrest := ReferenceIdeal.Hand.wr_tlOps3.drop 60) (y := ReferenceIdeal.main_v610) (x := ReferenceIdeal.main_v609) rfl rfl (by decide +kernel) (by decide +kernel)
  rw [eK, eR, h58 WK WR hP hLin hVal]
  try rfl
theorem h60 : StableHlo.after (KernelIdeal.Tail.ks3 (F := Ideal)) WK (Proc.devRef .tc KernelIdeal.main_v520) = StableHlo.after (ReferenceIdeal.Hand.tlOps3 (F := Ideal)) WR (Proc.devRef .tc ReferenceIdeal.main_v611) :=
  by
  have eK := final_binary (KernelIdeal.Tail.writes_ks3 (F := Ideal)) WK 65 (rest := (KernelIdeal.Tail.ks3 (F := Ideal)).drop 66) (wrest := KernelIdeal.Tail.wr_ks3.drop 66) (y := KernelIdeal.main_v520) (a := KernelIdeal.main_v513) (b := KernelIdeal.main_v519) rfl rfl (by decide +kernel) (by decide +kernel) (by decide +kernel)
  have eR := final_binary (ReferenceIdeal.Hand.writes_tlOps3 (F := Ideal)) WR 60 (rest := (ReferenceIdeal.Hand.tlOps3 (F := Ideal)).drop 61) (wrest := ReferenceIdeal.Hand.wr_tlOps3.drop 61) (y := ReferenceIdeal.main_v611) (a := ReferenceIdeal.main_v604) (b := ReferenceIdeal.main_v610) rfl rfl (by decide +kernel) (by decide +kernel) (by decide +kernel)
  rw [eK, eR, h51 WK WR hP hLin hVal, h59 WK WR hP hLin hVal]
  try rfl
theorem h61 : StableHlo.after (KernelIdeal.Tail.ks3 (F := Ideal)) WK (Proc.devRef .tc KernelIdeal.main_c_205) = StableHlo.after (ReferenceIdeal.Hand.tlOps3 (F := Ideal)) WR (Proc.devRef .tc ReferenceIdeal.main_c_224) :=
  by
  have eK := final_nullary (KernelIdeal.Tail.writes_ks3 (F := Ideal)) WK 66 (rest := (KernelIdeal.Tail.ks3 (F := Ideal)).drop 67) (wrest := KernelIdeal.Tail.wr_ks3.drop 67) (y := KernelIdeal.main_c_205) rfl rfl (by decide +kernel)
  have eR := final_nullary (ReferenceIdeal.Hand.writes_tlOps3 (F := Ideal)) WR 61 (rest := (ReferenceIdeal.Hand.tlOps3 (F := Ideal)).drop 62) (wrest := ReferenceIdeal.Hand.wr_tlOps3.drop 62) (y := ReferenceIdeal.main_c_224) rfl rfl (by decide +kernel)
  rw [eK, eR]
  try rfl
theorem h62 : StableHlo.after (KernelIdeal.Tail.ks3 (F := Ideal)) WK (Proc.devRef .tc KernelIdeal.main_call60_v0) = StableHlo.after (ReferenceIdeal.Hand.tlOps3 (F := Ideal)) WR (Proc.devRef .tc ReferenceIdeal.main_call64_v0) :=
  by
  have eK := final_unary (KernelIdeal.Tail.writes_ks3 (F := Ideal)) WK 67 (rest := (KernelIdeal.Tail.ks3 (F := Ideal)).drop 68) (wrest := KernelIdeal.Tail.wr_ks3.drop 68) (y := KernelIdeal.main_call60_v0) (x := KernelIdeal.main_c_205) rfl rfl (by decide +kernel) (by decide +kernel)
  have eR := final_unary (ReferenceIdeal.Hand.writes_tlOps3 (F := Ideal)) WR 62 (rest := (ReferenceIdeal.Hand.tlOps3 (F := Ideal)).drop 63) (wrest := ReferenceIdeal.Hand.wr_tlOps3.drop 63) (y := ReferenceIdeal.main_call64_v0) (x := ReferenceIdeal.main_c_224) rfl rfl (by decide +kernel) (by decide +kernel)
  rw [eK, eR, h61 WK WR hP hLin hVal]
  try rfl
theorem h63 : StableHlo.after (KernelIdeal.Tail.ks3 (F := Ideal)) WK (Proc.devRef .tc KernelIdeal.main_call60_v1) = StableHlo.after (ReferenceIdeal.Hand.tlOps3 (F := Ideal)) WR (Proc.devRef .tc ReferenceIdeal.main_call64_v1) :=
  by
  have eK := final_unary (KernelIdeal.Tail.writes_ks3 (F := Ideal)) WK 68 (rest := (KernelIdeal.Tail.ks3 (F := Ideal)).drop 69) (wrest := KernelIdeal.Tail.wr_ks3.drop 69) (y := KernelIdeal.main_call60_v1) (x := KernelIdeal.main_call60_v0) rfl rfl (by decide +kernel) (by decide +kernel)
  have eR := final_unary (ReferenceIdeal.Hand.writes_tlOps3 (F := Ideal)) WR 63 (rest := (ReferenceIdeal.Hand.tlOps3 (F := Ideal)).drop 64) (wrest := ReferenceIdeal.Hand.wr_tlOps3.drop 64) (y := ReferenceIdeal.main_call64_v1) (x := ReferenceIdeal.main_call64_v0) rfl rfl (by decide +kernel) (by decide +kernel)
  rw [eK, eR, h62 WK WR hP hLin hVal]
  try rfl
theorem h64 : StableHlo.after (KernelIdeal.Tail.ks3 (F := Ideal)) WK (Proc.devRef .tc KernelIdeal.main_v521) = StableHlo.after (ReferenceIdeal.Hand.tlOps3 (F := Ideal)) WR (Proc.devRef .tc ReferenceIdeal.main_v612) :=
  by
  have eK := final_ternary (KernelIdeal.Tail.writes_ks3 (F := Ideal)) WK 69 (rest := (KernelIdeal.Tail.ks3 (F := Ideal)).drop 70) (wrest := KernelIdeal.Tail.wr_ks3.drop 70) (y := KernelIdeal.main_v521) (c := KernelIdeal.main_v479) (a := KernelIdeal.main_v520) (b := KernelIdeal.main_call60_v1) rfl rfl (by decide +kernel) (by decide +kernel) (by decide +kernel) (by decide +kernel)
  have eR := final_ternary (ReferenceIdeal.Hand.writes_tlOps3 (F := Ideal)) WR 64 (rest := (ReferenceIdeal.Hand.tlOps3 (F := Ideal)).drop 65) (wrest := ReferenceIdeal.Hand.wr_tlOps3.drop 65) (y := ReferenceIdeal.main_v612) (c := ReferenceIdeal.main_v557) (a := ReferenceIdeal.main_v611) (b := ReferenceIdeal.main_call64_v1) rfl rfl (by decide +kernel) (by decide +kernel) (by decide +kernel) (by decide +kernel)
  rw [eK, eR, hVal, h60 WK WR hP hLin hVal, h63 WK WR hP hLin hVal]
  try rfl
theorem h65 : StableHlo.after (KernelIdeal.Tail.ks3 (F := Ideal)) WK (Proc.devRef .tc KernelIdeal.main_call61_v0) = StableHlo.after (ReferenceIdeal.Hand.tlOps3 (F := Ideal)) WR (Proc.devRef .tc ReferenceIdeal.main_call65_v0) :=
  by
  have eK := final_nullary (KernelIdeal.Tail.writes_ks3 (F := Ideal)) WK 70 (rest := (KernelIdeal.Tail.ks3 (F := Ideal)).drop 71) (wrest := KernelIdeal.Tail.wr_ks3.drop 71) (y := KernelIdeal.main_call61_v0) rfl rfl (by decide +kernel)
  have eR := final_nullary (ReferenceIdeal.Hand.writes_tlOps3 (F := Ideal)) WR 65 (rest := (ReferenceIdeal.Hand.tlOps3 (F := Ideal)).drop 66) (wrest := ReferenceIdeal.Hand.wr_tlOps3.drop 66) (y := ReferenceIdeal.main_call65_v0) rfl rfl (by decide +kernel)
  rw [eK, eR]
  try rfl
theorem h66 : StableHlo.after (KernelIdeal.Tail.ks3 (F := Ideal)) WK (Proc.devRef .tc KernelIdeal.main_call61_v1_0) = StableHlo.after (ReferenceIdeal.Hand.tlOps3 (F := Ideal)) WR (Proc.devRef .tc ReferenceIdeal.main_call65_v1_0) :=
  by
  have eK := final_binary (KernelIdeal.Tail.writes_ks3 (F := Ideal)) WK 71 (rest := (KernelIdeal.Tail.ks3 (F := Ideal)).drop 72) (wrest := KernelIdeal.Tail.wr_ks3.drop 72) (y := KernelIdeal.main_call61_v1_0) (a := KernelIdeal.main_v477) (b := KernelIdeal.main_call61_v0) rfl rfl (by decide +kernel) (by decide +kernel) (by decide +kernel)
  have eR := final_binary (ReferenceIdeal.Hand.writes_tlOps3 (F := Ideal)) WR 66 (rest := (ReferenceIdeal.Hand.tlOps3 (F := Ideal)).drop 67) (wrest := ReferenceIdeal.Hand.wr_tlOps3.drop 67) (y := ReferenceIdeal.main_call65_v1_0) (a := ReferenceIdeal.main_v570) (b := ReferenceIdeal.main_call65_v0) rfl rfl (by decide +kernel) (by decide +kernel) (by decide +kernel)
  rw [eK, eR, hLin, h65 WK WR hP hLin hVal]
  try rfl
theorem h67 : StableHlo.after (KernelIdeal.Tail.ks3 (F := Ideal)) WK (Proc.devRef .tc KernelIdeal.main_v522) = StableHlo.after (ReferenceIdeal.Hand.tlOps3 (F := Ideal)) WR (Proc.devRef .tc ReferenceIdeal.main_v613) :=
  by
  have eK := final_binary (KernelIdeal.Tail.writes_ks3 (F := Ideal)) WK 72 (rest := (KernelIdeal.Tail.ks3 (F := Ideal)).drop 73) (wrest := KernelIdeal.Tail.wr_ks3.drop 73) (y := KernelIdeal.main_v522) (a := KernelIdeal.main_v477) (b := KernelIdeal.main_call61_v0) rfl rfl (by decide +kernel) (by decide +kernel) (by decide +kernel)
  have eR := final_binary (ReferenceIdeal.Hand.writes_tlOps3 (F := Ideal)) WR 67 (rest := (ReferenceIdeal.Hand.tlOps3 (F := Ideal)).drop 68) (wrest := ReferenceIdeal.Hand.wr_tlOps3.drop 68) (y := ReferenceIdeal.main_v613) (a := ReferenceIdeal.main_v570) (b := ReferenceIdeal.main_call65_v0) rfl rfl (by decide +kernel) (by decide +kernel) (by decide +kernel)
  rw [eK, eR, hLin, h65 WK WR hP hLin hVal]
  try rfl
theorem h68 : StableHlo.after (KernelIdeal.Tail.ks3 (F := Ideal)) WK (Proc.devRef .tc KernelIdeal.main_c_206) = StableHlo.after (ReferenceIdeal.Hand.tlOps3 (F := Ideal)) WR (Proc.devRef .tc ReferenceIdeal.main_c_225) :=
  by
  have eK := final_nullary (KernelIdeal.Tail.writes_ks3 (F := Ideal)) WK 73 (rest := (KernelIdeal.Tail.ks3 (F := Ideal)).drop 74) (wrest := KernelIdeal.Tail.wr_ks3.drop 74) (y := KernelIdeal.main_c_206) rfl rfl (by decide +kernel)
  have eR := final_nullary (ReferenceIdeal.Hand.writes_tlOps3 (F := Ideal)) WR 68 (rest := (ReferenceIdeal.Hand.tlOps3 (F := Ideal)).drop 69) (wrest := ReferenceIdeal.Hand.wr_tlOps3.drop 69) (y := ReferenceIdeal.main_c_225) rfl rfl (by decide +kernel)
  rw [eK, eR]
  try rfl
theorem h69 : StableHlo.after (KernelIdeal.Tail.ks3 (F := Ideal)) WK (Proc.devRef .tc KernelIdeal.main_v523) = StableHlo.after (ReferenceIdeal.Hand.tlOps3 (F := Ideal)) WR (Proc.devRef .tc ReferenceIdeal.main_v614) :=
  by
  have eK := final_unary (KernelIdeal.Tail.writes_ks3 (F := Ideal)) WK 74 (rest := (KernelIdeal.Tail.ks3 (F := Ideal)).drop 75) (wrest := KernelIdeal.Tail.wr_ks3.drop 75) (y := KernelIdeal.main_v523) (x := KernelIdeal.main_c_206) rfl rfl (by decide +kernel) (by decide +kernel)
  have eR := final_unary (ReferenceIdeal.Hand.writes_tlOps3 (F := Ideal)) WR 69 (rest := (ReferenceIdeal.Hand.tlOps3 (F := Ideal)).drop 70) (wrest := ReferenceIdeal.Hand.wr_tlOps3.drop 70) (y := ReferenceIdeal.main_v614) (x := ReferenceIdeal.main_c_225) rfl rfl (by decide +kernel) (by decide +kernel)
  rw [eK, eR, h68 WK WR hP hLin hVal]
  try rfl
theorem h70 : StableHlo.after (KernelIdeal.Tail.ks3 (F := Ideal)) WK (Proc.devRef .tc KernelIdeal.main_v524) = StableHlo.after (ReferenceIdeal.Hand.tlOps3 (F := Ideal)) WR (Proc.devRef .tc ReferenceIdeal.main_v615) :=
  by
  have eK := final_binary (KernelIdeal.Tail.writes_ks3 (F := Ideal)) WK 75 (rest := (KernelIdeal.Tail.ks3 (F := Ideal)).drop 76) (wrest := KernelIdeal.Tail.wr_ks3.drop 76) (y := KernelIdeal.main_v524) (a := KernelIdeal.main_v522) (b := KernelIdeal.main_v523) rfl rfl (by decide +kernel) (by decide +kernel) (by decide +kernel)
  have eR := final_binary (ReferenceIdeal.Hand.writes_tlOps3 (F := Ideal)) WR 70 (rest := (ReferenceIdeal.Hand.tlOps3 (F := Ideal)).drop 71) (wrest := ReferenceIdeal.Hand.wr_tlOps3.drop 71) (y := ReferenceIdeal.main_v615) (a := ReferenceIdeal.main_v613) (b := ReferenceIdeal.main_v614) rfl rfl (by decide +kernel) (by decide +kernel) (by decide +kernel)
  rw [eK, eR, h67 WK WR hP hLin hVal, h69 WK WR hP hLin hVal]
  try rfl
theorem h71 : StableHlo.after (KernelIdeal.Tail.ks3 (F := Ideal)) WK (Proc.devRef .tc KernelIdeal.main_c_207) = StableHlo.after (ReferenceIdeal.Hand.tlOps3 (F := Ideal)) WR (Proc.devRef .tc ReferenceIdeal.main_c_226) :=
  by
  have eK := final_nullary (KernelIdeal.Tail.writes_ks3 (F := Ideal)) WK 76 (rest := (KernelIdeal.Tail.ks3 (F := Ideal)).drop 77) (wrest := KernelIdeal.Tail.wr_ks3.drop 77) (y := KernelIdeal.main_c_207) rfl rfl (by decide +kernel)
  have eR := final_nullary (ReferenceIdeal.Hand.writes_tlOps3 (F := Ideal)) WR 71 (rest := (ReferenceIdeal.Hand.tlOps3 (F := Ideal)).drop 72) (wrest := ReferenceIdeal.Hand.wr_tlOps3.drop 72) (y := ReferenceIdeal.main_c_226) rfl rfl (by decide +kernel)
  rw [eK, eR]
  try rfl
theorem h72 : StableHlo.after (KernelIdeal.Tail.ks3 (F := Ideal)) WK (Proc.devRef .tc KernelIdeal.main_v525) = StableHlo.after (ReferenceIdeal.Hand.tlOps3 (F := Ideal)) WR (Proc.devRef .tc ReferenceIdeal.main_v616) :=
  by
  have eK := final_unary (KernelIdeal.Tail.writes_ks3 (F := Ideal)) WK 77 (rest := (KernelIdeal.Tail.ks3 (F := Ideal)).drop 78) (wrest := KernelIdeal.Tail.wr_ks3.drop 78) (y := KernelIdeal.main_v525) (x := KernelIdeal.main_c_207) rfl rfl (by decide +kernel) (by decide +kernel)
  have eR := final_unary (ReferenceIdeal.Hand.writes_tlOps3 (F := Ideal)) WR 72 (rest := (ReferenceIdeal.Hand.tlOps3 (F := Ideal)).drop 73) (wrest := ReferenceIdeal.Hand.wr_tlOps3.drop 73) (y := ReferenceIdeal.main_v616) (x := ReferenceIdeal.main_c_226) rfl rfl (by decide +kernel) (by decide +kernel)
  rw [eK, eR, h71 WK WR hP hLin hVal]
  try rfl
theorem h73 : StableHlo.after (KernelIdeal.Tail.ks3 (F := Ideal)) WK (Proc.devRef .tc KernelIdeal.main_v526) = StableHlo.after (ReferenceIdeal.Hand.tlOps3 (F := Ideal)) WR (Proc.devRef .tc ReferenceIdeal.main_v617) :=
  by
  have eK := final_binary (KernelIdeal.Tail.writes_ks3 (F := Ideal)) WK 78 (rest := (KernelIdeal.Tail.ks3 (F := Ideal)).drop 79) (wrest := KernelIdeal.Tail.wr_ks3.drop 79) (y := KernelIdeal.main_v526) (a := KernelIdeal.main_v522) (b := KernelIdeal.main_v525) rfl rfl (by decide +kernel) (by decide +kernel) (by decide +kernel)
  have eR := final_binary (ReferenceIdeal.Hand.writes_tlOps3 (F := Ideal)) WR 73 (rest := (ReferenceIdeal.Hand.tlOps3 (F := Ideal)).drop 74) (wrest := ReferenceIdeal.Hand.wr_tlOps3.drop 74) (y := ReferenceIdeal.main_v617) (a := ReferenceIdeal.main_v613) (b := ReferenceIdeal.main_v616) rfl rfl (by decide +kernel) (by decide +kernel) (by decide +kernel)
  rw [eK, eR, h67 WK WR hP hLin hVal, h72 WK WR hP hLin hVal]
  try rfl
theorem h74 : StableHlo.after (KernelIdeal.Tail.ks3 (F := Ideal)) WK (Proc.devRef .tc KernelIdeal.main_v527) = StableHlo.after (ReferenceIdeal.Hand.tlOps3 (F := Ideal)) WR (Proc.devRef .tc ReferenceIdeal.main_v618) :=
  by
  have eK := final_ternary (KernelIdeal.Tail.writes_ks3 (F := Ideal)) WK 79 (rest := (KernelIdeal.Tail.ks3 (F := Ideal)).drop 80) (wrest := KernelIdeal.Tail.wr_ks3.drop 80) (y := KernelIdeal.main_v527) (c := KernelIdeal.main_v524) (a := KernelIdeal.main_v526) (b := KernelIdeal.main_v522) rfl rfl (by decide +kernel) (by decide +kernel) (by decide +kernel) (by decide +kernel)
  have eR := final_ternary (ReferenceIdeal.Hand.writes_tlOps3 (F := Ideal)) WR 74 (rest := (ReferenceIdeal.Hand.tlOps3 (F := Ideal)).drop 75) (wrest := ReferenceIdeal.Hand.wr_tlOps3.drop 75) (y := ReferenceIdeal.main_v618) (c := ReferenceIdeal.main_v615) (a := ReferenceIdeal.main_v617) (b := ReferenceIdeal.main_v613) rfl rfl (by decide +kernel) (by decide +kernel) (by decide +kernel) (by decide +kernel)
  rw [eK, eR, h70 WK WR hP hLin hVal, h73 WK WR hP hLin hVal, h67 WK WR hP hLin hVal]
  try rfl
theorem h75 : StableHlo.after (KernelIdeal.Tail.ks3 (F := Ideal)) WK (Proc.devRef .tc KernelIdeal.main_v528) = StableHlo.after (ReferenceIdeal.Hand.tlOps3 (F := Ideal)) WR (Proc.devRef .tc ReferenceIdeal.main_v619) :=
  by
  have eK := final_unary (KernelIdeal.Tail.writes_ks3 (F := Ideal)) WK 80 (rest := (KernelIdeal.Tail.ks3 (F := Ideal)).drop 81) (wrest := KernelIdeal.Tail.wr_ks3.drop 81) (y := KernelIdeal.main_v528) (x := KernelIdeal.main_v527) rfl rfl (by decide +kernel) (by decide +kernel)
  have eR := final_unary (ReferenceIdeal.Hand.writes_tlOps3 (F := Ideal)) WR 75 (rest := (ReferenceIdeal.Hand.tlOps3 (F := Ideal)).drop 76) (wrest := ReferenceIdeal.Hand.wr_tlOps3.drop 76) (y := ReferenceIdeal.main_v619) (x := ReferenceIdeal.main_v618) rfl rfl (by decide +kernel) (by decide +kernel)
  rw [eK, eR, h74 WK WR hP hLin hVal]
  try rfl
theorem h76 : StableHlo.after (KernelIdeal.Tail.ks3 (F := Ideal)) WK (Proc.devRef .tc KernelIdeal.main_v529) = StableHlo.after (ReferenceIdeal.Hand.tlOps3 (F := Ideal)) WR (Proc.devRef .tc ReferenceIdeal.main_v620) :=
  by
  have eK := final_binary (KernelIdeal.Tail.writes_ks3 (F := Ideal)) WK 81 (rest := (KernelIdeal.Tail.ks3 (F := Ideal)).drop 82) (wrest := KernelIdeal.Tail.wr_ks3.drop 82) (y := KernelIdeal.main_v529) (a := KernelIdeal.main_v477) (b := KernelIdeal.main_v528) rfl rfl (by decide +kernel) (by decide +kernel) (by decide +kernel)
  have eR := final_binary (ReferenceIdeal.Hand.writes_tlOps3 (F := Ideal)) WR 76 (rest := (ReferenceIdeal.Hand.tlOps3 (F := Ideal)).drop 77) (wrest := ReferenceIdeal.Hand.wr_tlOps3.drop 77) (y := ReferenceIdeal.main_v620) (a := ReferenceIdeal.main_v570) (b := ReferenceIdeal.main_v619) rfl rfl (by decide +kernel) (by decide +kernel) (by decide +kernel)
  rw [eK, eR, hLin, h75 WK WR hP hLin hVal]
  try rfl
theorem h77 : StableHlo.after (KernelIdeal.Tail.ks3 (F := Ideal)) WK (Proc.devRef .tc KernelIdeal.main_c_208) = StableHlo.after (ReferenceIdeal.Hand.tlOps3 (F := Ideal)) WR (Proc.devRef .tc ReferenceIdeal.main_c_227) :=
  by
  have eK := final_nullary (KernelIdeal.Tail.writes_ks3 (F := Ideal)) WK 82 (rest := (KernelIdeal.Tail.ks3 (F := Ideal)).drop 83) (wrest := KernelIdeal.Tail.wr_ks3.drop 83) (y := KernelIdeal.main_c_208) rfl rfl (by decide +kernel)
  have eR := final_nullary (ReferenceIdeal.Hand.writes_tlOps3 (F := Ideal)) WR 77 (rest := (ReferenceIdeal.Hand.tlOps3 (F := Ideal)).drop 78) (wrest := ReferenceIdeal.Hand.wr_tlOps3.drop 78) (y := ReferenceIdeal.main_c_227) rfl rfl (by decide +kernel)
  rw [eK, eR]
  try rfl
theorem h78 : StableHlo.after (KernelIdeal.Tail.ks3 (F := Ideal)) WK (Proc.devRef .tc KernelIdeal.main_v530) = StableHlo.after (ReferenceIdeal.Hand.tlOps3 (F := Ideal)) WR (Proc.devRef .tc ReferenceIdeal.main_v621) :=
  by
  have eK := final_unary (KernelIdeal.Tail.writes_ks3 (F := Ideal)) WK 83 (rest := (KernelIdeal.Tail.ks3 (F := Ideal)).drop 84) (wrest := KernelIdeal.Tail.wr_ks3.drop 84) (y := KernelIdeal.main_v530) (x := KernelIdeal.main_c_208) rfl rfl (by decide +kernel) (by decide +kernel)
  have eR := final_unary (ReferenceIdeal.Hand.writes_tlOps3 (F := Ideal)) WR 78 (rest := (ReferenceIdeal.Hand.tlOps3 (F := Ideal)).drop 79) (wrest := ReferenceIdeal.Hand.wr_tlOps3.drop 79) (y := ReferenceIdeal.main_v621) (x := ReferenceIdeal.main_c_227) rfl rfl (by decide +kernel) (by decide +kernel)
  rw [eK, eR, h77 WK WR hP hLin hVal]
  try rfl
theorem h79 : StableHlo.after (KernelIdeal.Tail.ks3 (F := Ideal)) WK (Proc.devRef .tc KernelIdeal.main_v531) = StableHlo.after (ReferenceIdeal.Hand.tlOps3 (F := Ideal)) WR (Proc.devRef .tc ReferenceIdeal.main_v622) :=
  by
  have eK := final_unary (KernelIdeal.Tail.writes_ks3 (F := Ideal)) WK 84 (rest := (KernelIdeal.Tail.ks3 (F := Ideal)).drop 85) (wrest := KernelIdeal.Tail.wr_ks3.drop 85) (y := KernelIdeal.main_v531) (x := KernelIdeal.main_v529) rfl rfl (by decide +kernel) (by decide +kernel)
  have eR := final_unary (ReferenceIdeal.Hand.writes_tlOps3 (F := Ideal)) WR 79 (rest := (ReferenceIdeal.Hand.tlOps3 (F := Ideal)).drop 80) (wrest := ReferenceIdeal.Hand.wr_tlOps3.drop 80) (y := ReferenceIdeal.main_v622) (x := ReferenceIdeal.main_v620) rfl rfl (by decide +kernel) (by decide +kernel)
  rw [eK, eR, h76 WK WR hP hLin hVal]
  try rfl
theorem h80 : StableHlo.after (KernelIdeal.Tail.ks3 (F := Ideal)) WK (Proc.devRef .tc KernelIdeal.main_v532) = StableHlo.after (ReferenceIdeal.Hand.tlOps3 (F := Ideal)) WR (Proc.devRef .tc ReferenceIdeal.main_v623) :=
  by
  have eK := final_unary (KernelIdeal.Tail.writes_ks3 (F := Ideal)) WK 85 (rest := (KernelIdeal.Tail.ks3 (F := Ideal)).drop 86) (wrest := KernelIdeal.Tail.wr_ks3.drop 86) (y := KernelIdeal.main_v532) (x := KernelIdeal.main_v529) rfl rfl (by decide +kernel) (by decide +kernel)
  have eR := final_unary (ReferenceIdeal.Hand.writes_tlOps3 (F := Ideal)) WR 80 (rest := (ReferenceIdeal.Hand.tlOps3 (F := Ideal)).drop 81) (wrest := ReferenceIdeal.Hand.wr_tlOps3.drop 81) (y := ReferenceIdeal.main_v623) (x := ReferenceIdeal.main_v620) rfl rfl (by decide +kernel) (by decide +kernel)
  rw [eK, eR, h76 WK WR hP hLin hVal]
  try rfl
theorem h81 : StableHlo.after (KernelIdeal.Tail.ks3 (F := Ideal)) WK (Proc.devRef .tc KernelIdeal.main_v533) = StableHlo.after (ReferenceIdeal.Hand.tlOps3 (F := Ideal)) WR (Proc.devRef .tc ReferenceIdeal.main_v624) :=
  by
  have eK := final_binary (KernelIdeal.Tail.writes_ks3 (F := Ideal)) WK 86 (rest := (KernelIdeal.Tail.ks3 (F := Ideal)).drop 87) (wrest := KernelIdeal.Tail.wr_ks3.drop 87) (y := KernelIdeal.main_v533) (a := KernelIdeal.main_v531) (b := KernelIdeal.main_v532) rfl rfl (by decide +kernel) (by decide +kernel) (by decide +kernel)
  have eR := final_binary (ReferenceIdeal.Hand.writes_tlOps3 (F := Ideal)) WR 81 (rest := (ReferenceIdeal.Hand.tlOps3 (F := Ideal)).drop 82) (wrest := ReferenceIdeal.Hand.wr_tlOps3.drop 82) (y := ReferenceIdeal.main_v624) (a := ReferenceIdeal.main_v622) (b := ReferenceIdeal.main_v623) rfl rfl (by decide +kernel) (by decide +kernel) (by decide +kernel)
  rw [eK, eR, h79 WK WR hP hLin hVal, h80 WK WR hP hLin hVal]
  try rfl
theorem h82 : StableHlo.after (KernelIdeal.Tail.ks3 (F := Ideal)) WK (Proc.devRef .tc KernelIdeal.main_v534) = StableHlo.after (ReferenceIdeal.Hand.tlOps3 (F := Ideal)) WR (Proc.devRef .tc ReferenceIdeal.main_v625) :=
  by
  have eK := final_binary (KernelIdeal.Tail.writes_ks3 (F := Ideal)) WK 87 (rest := (KernelIdeal.Tail.ks3 (F := Ideal)).drop 88) (wrest := KernelIdeal.Tail.wr_ks3.drop 88) (y := KernelIdeal.main_v534) (a := KernelIdeal.main_v530) (b := KernelIdeal.main_v533) rfl rfl (by decide +kernel) (by decide +kernel) (by decide +kernel)
  have eR := final_binary (ReferenceIdeal.Hand.writes_tlOps3 (F := Ideal)) WR 82 (rest := (ReferenceIdeal.Hand.tlOps3 (F := Ideal)).drop 83) (wrest := ReferenceIdeal.Hand.wr_tlOps3.drop 83) (y := ReferenceIdeal.main_v625) (a := ReferenceIdeal.main_v621) (b := ReferenceIdeal.main_v624) rfl rfl (by decide +kernel) (by decide +kernel) (by decide +kernel)
  rw [eK, eR, h78 WK WR hP hLin hVal, h81 WK WR hP hLin hVal]
  try rfl
theorem h83 : StableHlo.after (KernelIdeal.Tail.ks3 (F := Ideal)) WK (Proc.devRef .tc KernelIdeal.main_c_209) = StableHlo.after (ReferenceIdeal.Hand.tlOps3 (F := Ideal)) WR (Proc.devRef .tc ReferenceIdeal.main_c_228) :=
  by
  have eK := final_nullary (KernelIdeal.Tail.writes_ks3 (F := Ideal)) WK 88 (rest := (KernelIdeal.Tail.ks3 (F := Ideal)).drop 89) (wrest := KernelIdeal.Tail.wr_ks3.drop 89) (y := KernelIdeal.main_c_209) rfl rfl (by decide +kernel)
  have eR := final_nullary (ReferenceIdeal.Hand.writes_tlOps3 (F := Ideal)) WR 83 (rest := (ReferenceIdeal.Hand.tlOps3 (F := Ideal)).drop 84) (wrest := ReferenceIdeal.Hand.wr_tlOps3.drop 84) (y := ReferenceIdeal.main_c_228) rfl rfl (by decide +kernel)
  rw [eK, eR]
  try rfl
theorem h84 : StableHlo.after (KernelIdeal.Tail.ks3 (F := Ideal)) WK (Proc.devRef .tc KernelIdeal.main_call62_v0) = StableHlo.after (ReferenceIdeal.Hand.tlOps3 (F := Ideal)) WR (Proc.devRef .tc ReferenceIdeal.main_call66_v0) :=
  by
  have eK := final_unary (KernelIdeal.Tail.writes_ks3 (F := Ideal)) WK 89 (rest := (KernelIdeal.Tail.ks3 (F := Ideal)).drop 90) (wrest := KernelIdeal.Tail.wr_ks3.drop 90) (y := KernelIdeal.main_call62_v0) (x := KernelIdeal.main_c_209) rfl rfl (by decide +kernel) (by decide +kernel)
  have eR := final_unary (ReferenceIdeal.Hand.writes_tlOps3 (F := Ideal)) WR 84 (rest := (ReferenceIdeal.Hand.tlOps3 (F := Ideal)).drop 85) (wrest := ReferenceIdeal.Hand.wr_tlOps3.drop 85) (y := ReferenceIdeal.main_call66_v0) (x := ReferenceIdeal.main_c_228) rfl rfl (by decide +kernel) (by decide +kernel)
  rw [eK, eR, h83 WK WR hP hLin hVal]
  try rfl
theorem h85 : StableHlo.after (KernelIdeal.Tail.ks3 (F := Ideal)) WK (Proc.devRef .tc KernelIdeal.main_call62_v1) = StableHlo.after (ReferenceIdeal.Hand.tlOps3 (F := Ideal)) WR (Proc.devRef .tc ReferenceIdeal.main_call66_v1) :=
  by
  have eK := final_unary (KernelIdeal.Tail.writes_ks3 (F := Ideal)) WK 90 (rest := (KernelIdeal.Tail.ks3 (F := Ideal)).drop 91) (wrest := KernelIdeal.Tail.wr_ks3.drop 91) (y := KernelIdeal.main_call62_v1) (x := KernelIdeal.main_call62_v0) rfl rfl (by decide +kernel) (by decide +kernel)
  have eR := final_unary (ReferenceIdeal.Hand.writes_tlOps3 (F := Ideal)) WR 85 (rest := (ReferenceIdeal.Hand.tlOps3 (F := Ideal)).drop 86) (wrest := ReferenceIdeal.Hand.wr_tlOps3.drop 86) (y := ReferenceIdeal.main_call66_v1) (x := ReferenceIdeal.main_call66_v0) rfl rfl (by decide +kernel) (by decide +kernel)
  rw [eK, eR, h84 WK WR hP hLin hVal]
  try rfl
theorem h86 : StableHlo.after (KernelIdeal.Tail.ks3 (F := Ideal)) WK (Proc.devRef .tc KernelIdeal.main_v535) = StableHlo.after (ReferenceIdeal.Hand.tlOps3 (F := Ideal)) WR (Proc.devRef .tc ReferenceIdeal.main_v626) :=
  by
  have eK := final_ternary (KernelIdeal.Tail.writes_ks3 (F := Ideal)) WK 91 (rest := (KernelIdeal.Tail.ks3 (F := Ideal)).drop 92) (wrest := KernelIdeal.Tail.wr_ks3.drop 92) (y := KernelIdeal.main_v535) (c := KernelIdeal.main_v534) (a := KernelIdeal.main_v480) (b := KernelIdeal.main_call62_v1) rfl rfl (by decide +kernel) (by decide +kernel) (by decide +kernel) (by decide +kernel)
  have eR := final_ternary (ReferenceIdeal.Hand.writes_tlOps3 (F := Ideal)) WR 86 (rest := (ReferenceIdeal.Hand.tlOps3 (F := Ideal)).drop 87) (wrest := ReferenceIdeal.Hand.wr_tlOps3.drop 87) (y := ReferenceIdeal.main_v626) (c := ReferenceIdeal.main_v625) (a := ReferenceIdeal.main_v571) (b := ReferenceIdeal.main_call66_v1) rfl rfl (by decide +kernel) (by decide +kernel) (by decide +kernel) (by decide +kernel)
  rw [eK, eR, h82 WK WR hP hLin hVal, h0 WK WR hP hLin hVal, h85 WK WR hP hLin hVal]
  try rfl
theorem h87 : StableHlo.after (KernelIdeal.Tail.ks3 (F := Ideal)) WK (Proc.devRef .tc KernelIdeal.main_call63_c) = StableHlo.after (ReferenceIdeal.Hand.tlOps3 (F := Ideal)) WR (Proc.devRef .tc ReferenceIdeal.main_call67_c) :=
  by
  have eK := final_nullary (KernelIdeal.Tail.writes_ks3 (F := Ideal)) WK 92 (rest := (KernelIdeal.Tail.ks3 (F := Ideal)).drop 93) (wrest := KernelIdeal.Tail.wr_ks3.drop 93) (y := KernelIdeal.main_call63_c) rfl rfl (by decide +kernel)
  have eR := final_nullary (ReferenceIdeal.Hand.writes_tlOps3 (F := Ideal)) WR 87 (rest := (ReferenceIdeal.Hand.tlOps3 (F := Ideal)).drop 88) (wrest := ReferenceIdeal.Hand.wr_tlOps3.drop 88) (y := ReferenceIdeal.main_call67_c) rfl rfl (by decide +kernel)
  rw [eK, eR]
  try rfl
theorem h88 : StableHlo.after (KernelIdeal.Tail.ks3 (F := Ideal)) WK (Proc.devRef .tc KernelIdeal.main_call63_v0) = StableHlo.after (ReferenceIdeal.Hand.tlOps3 (F := Ideal)) WR (Proc.devRef .tc ReferenceIdeal.main_call67_v0) :=
  by
  have eK := final_unary (KernelIdeal.Tail.writes_ks3 (F := Ideal)) WK 93 (rest := (KernelIdeal.Tail.ks3 (F := Ideal)).drop 94) (wrest := KernelIdeal.Tail.wr_ks3.drop 94) (y := KernelIdeal.main_call63_v0) (x := KernelIdeal.main_call63_c) rfl rfl (by decide +kernel) (by decide +kernel)
  have eR := final_unary (ReferenceIdeal.Hand.writes_tlOps3 (F := Ideal)) WR 88 (rest := (ReferenceIdeal.Hand.tlOps3 (F := Ideal)).drop 89) (wrest := ReferenceIdeal.Hand.wr_tlOps3.drop 89) (y := ReferenceIdeal.main_call67_v0) (x := ReferenceIdeal.main_call67_c) rfl rfl (by decide +kernel) (by decide +kernel)
  rw [eK, eR, h87 WK WR hP hLin hVal]
  try rfl
theorem h89 : StableHlo.after (KernelIdeal.Tail.ks3 (F := Ideal)) WK (Proc.devRef .tc KernelIdeal.main_v536) = StableHlo.after (ReferenceIdeal.Hand.tlOps3 (F := Ideal)) WR (Proc.devRef .tc ReferenceIdeal.main_v627) :=
  by
  have eK := final_binary (KernelIdeal.Tail.writes_ks3 (F := Ideal)) WK 94 (rest := (KernelIdeal.Tail.ks3 (F := Ideal)).drop 95) (wrest := KernelIdeal.Tail.wr_ks3.drop 95) (y := KernelIdeal.main_v536) (a := KernelIdeal.main_v535) (b := KernelIdeal.main_call63_v0) rfl rfl (by decide +kernel) (by decide +kernel) (by decide +kernel)
  have eR := final_binary (ReferenceIdeal.Hand.writes_tlOps3 (F := Ideal)) WR 89 (rest := (ReferenceIdeal.Hand.tlOps3 (F := Ideal)).drop 90) (wrest := ReferenceIdeal.Hand.wr_tlOps3.drop 90) (y := ReferenceIdeal.main_v627) (a := ReferenceIdeal.main_v626) (b := ReferenceIdeal.main_call67_v0) rfl rfl (by decide +kernel) (by decide +kernel) (by decide +kernel)
  rw [eK, eR, h86 WK WR hP hLin hVal, h88 WK WR hP hLin hVal]
  try rfl
theorem h90 : StableHlo.after (KernelIdeal.Tail.ks3 (F := Ideal)) WK (Proc.devRef .tc KernelIdeal.main_c_210) = StableHlo.after (ReferenceIdeal.Hand.tlOps3 (F := Ideal)) WR (Proc.devRef .tc ReferenceIdeal.main_c_229) :=
  by
  have eK := final_nullary (KernelIdeal.Tail.writes_ks3 (F := Ideal)) WK 95 (rest := (KernelIdeal.Tail.ks3 (F := Ideal)).drop 96) (wrest := KernelIdeal.Tail.wr_ks3.drop 96) (y := KernelIdeal.main_c_210) rfl rfl (by decide +kernel)
  have eR := final_nullary (ReferenceIdeal.Hand.writes_tlOps3 (F := Ideal)) WR 90 (rest := (ReferenceIdeal.Hand.tlOps3 (F := Ideal)).drop 91) (wrest := ReferenceIdeal.Hand.wr_tlOps3.drop 91) (y := ReferenceIdeal.main_c_229) rfl rfl (by decide +kernel)
  rw [eK, eR]
  try rfl
theorem h91 : StableHlo.after (KernelIdeal.Tail.ks3 (F := Ideal)) WK (Proc.devRef .tc KernelIdeal.main_v537) = StableHlo.after (ReferenceIdeal.Hand.tlOps3 (F := Ideal)) WR (Proc.devRef .tc ReferenceIdeal.main_v628) :=
  by
  have eK := final_unary (KernelIdeal.Tail.writes_ks3 (F := Ideal)) WK 96 (rest := (KernelIdeal.Tail.ks3 (F := Ideal)).drop 97) (wrest := KernelIdeal.Tail.wr_ks3.drop 97) (y := KernelIdeal.main_v537) (x := KernelIdeal.main_c_210) rfl rfl (by decide +kernel) (by decide +kernel)
  have eR := final_unary (ReferenceIdeal.Hand.writes_tlOps3 (F := Ideal)) WR 91 (rest := (ReferenceIdeal.Hand.tlOps3 (F := Ideal)).drop 92) (wrest := ReferenceIdeal.Hand.wr_tlOps3.drop 92) (y := ReferenceIdeal.main_v628) (x := ReferenceIdeal.main_c_229) rfl rfl (by decide +kernel) (by decide +kernel)
  rw [eK, eR, h90 WK WR hP hLin hVal]
  try rfl
theorem h92 : StableHlo.after (KernelIdeal.Tail.ks3 (F := Ideal)) WK (Proc.devRef .tc KernelIdeal.main_v538) = StableHlo.after (ReferenceIdeal.Hand.tlOps3 (F := Ideal)) WR (Proc.devRef .tc ReferenceIdeal.main_v629) :=
  by
  have eK := final_binary (KernelIdeal.Tail.writes_ks3 (F := Ideal)) WK 97 (rest := (KernelIdeal.Tail.ks3 (F := Ideal)).drop 98) (wrest := KernelIdeal.Tail.wr_ks3.drop 98) (y := KernelIdeal.main_v538) (a := KernelIdeal.main_v480) (b := KernelIdeal.main_v536) rfl rfl (by decide +kernel) (by decide +kernel) (by decide +kernel)
  have eR := final_binary (ReferenceIdeal.Hand.writes_tlOps3 (F := Ideal)) WR 92 (rest := (ReferenceIdeal.Hand.tlOps3 (F := Ideal)).drop 93) (wrest := ReferenceIdeal.Hand.wr_tlOps3.drop 93) (y := ReferenceIdeal.main_v629) (a := ReferenceIdeal.main_v571) (b := ReferenceIdeal.main_v627) rfl rfl (by decide +kernel) (by decide +kernel) (by decide +kernel)
  rw [eK, eR, h0 WK WR hP hLin hVal, h89 WK WR hP hLin hVal]
  try rfl
theorem h93 : StableHlo.after (KernelIdeal.Tail.ks3 (F := Ideal)) WK (Proc.devRef .tc KernelIdeal.main_c_211) = StableHlo.after (ReferenceIdeal.Hand.tlOps3 (F := Ideal)) WR (Proc.devRef .tc ReferenceIdeal.main_c_230) :=
  by
  have eK := final_nullary (KernelIdeal.Tail.writes_ks3 (F := Ideal)) WK 98 (rest := (KernelIdeal.Tail.ks3 (F := Ideal)).drop 99) (wrest := KernelIdeal.Tail.wr_ks3.drop 99) (y := KernelIdeal.main_c_211) rfl rfl (by decide +kernel)
  have eR := final_nullary (ReferenceIdeal.Hand.writes_tlOps3 (F := Ideal)) WR 93 (rest := (ReferenceIdeal.Hand.tlOps3 (F := Ideal)).drop 94) (wrest := ReferenceIdeal.Hand.wr_tlOps3.drop 94) (y := ReferenceIdeal.main_c_230) rfl rfl (by decide +kernel)
  rw [eK, eR]
  try rfl
theorem h94 : StableHlo.after (KernelIdeal.Tail.ks3 (F := Ideal)) WK (Proc.devRef .tc KernelIdeal.main_v539) = StableHlo.after (ReferenceIdeal.Hand.tlOps3 (F := Ideal)) WR (Proc.devRef .tc ReferenceIdeal.main_v630) :=
  by
  have eK := final_unary (KernelIdeal.Tail.writes_ks3 (F := Ideal)) WK 99 (rest := (KernelIdeal.Tail.ks3 (F := Ideal)).drop 100) (wrest := KernelIdeal.Tail.wr_ks3.drop 100) (y := KernelIdeal.main_v539) (x := KernelIdeal.main_c_211) rfl rfl (by decide +kernel) (by decide +kernel)
  have eR := final_unary (ReferenceIdeal.Hand.writes_tlOps3 (F := Ideal)) WR 94 (rest := (ReferenceIdeal.Hand.tlOps3 (F := Ideal)).drop 95) (wrest := ReferenceIdeal.Hand.wr_tlOps3.drop 95) (y := ReferenceIdeal.main_v630) (x := ReferenceIdeal.main_c_230) rfl rfl (by decide +kernel) (by decide +kernel)
  rw [eK, eR, h93 WK WR hP hLin hVal]
  try rfl
theorem h95 : StableHlo.after (KernelIdeal.Tail.ks3 (F := Ideal)) WK (Proc.devRef .tc KernelIdeal.main_v540) = StableHlo.after (ReferenceIdeal.Hand.tlOps3 (F := Ideal)) WR (Proc.devRef .tc ReferenceIdeal.main_v631) :=
  by
  have eK := final_binary (KernelIdeal.Tail.writes_ks3 (F := Ideal)) WK 100 (rest := (KernelIdeal.Tail.ks3 (F := Ideal)).drop 101) (wrest := KernelIdeal.Tail.wr_ks3.drop 101) (y := KernelIdeal.main_v540) (a := KernelIdeal.main_v522) (b := KernelIdeal.main_v539) rfl rfl (by decide +kernel) (by decide +kernel) (by decide +kernel)
  have eR := final_binary (ReferenceIdeal.Hand.writes_tlOps3 (F := Ideal)) WR 95 (rest := (ReferenceIdeal.Hand.tlOps3 (F := Ideal)).drop 96) (wrest := ReferenceIdeal.Hand.wr_tlOps3.drop 96) (y := ReferenceIdeal.main_v631) (a := ReferenceIdeal.main_v613) (b := ReferenceIdeal.main_v630) rfl rfl (by decide +kernel) (by decide +kernel) (by decide +kernel)
  rw [eK, eR, h67 WK WR hP hLin hVal, h94 WK WR hP hLin hVal]
  try rfl
theorem h96 : StableHlo.after (KernelIdeal.Tail.ks3 (F := Ideal)) WK (Proc.devRef .tc KernelIdeal.main_c_212) = StableHlo.after (ReferenceIdeal.Hand.tlOps3 (F := Ideal)) WR (Proc.devRef .tc ReferenceIdeal.main_c_231) :=
  by
  have eK := final_nullary (KernelIdeal.Tail.writes_ks3 (F := Ideal)) WK 101 (rest := (KernelIdeal.Tail.ks3 (F := Ideal)).drop 102) (wrest := KernelIdeal.Tail.wr_ks3.drop 102) (y := KernelIdeal.main_c_212) rfl rfl (by decide +kernel)
  have eR := final_nullary (ReferenceIdeal.Hand.writes_tlOps3 (F := Ideal)) WR 96 (rest := (ReferenceIdeal.Hand.tlOps3 (F := Ideal)).drop 97) (wrest := ReferenceIdeal.Hand.wr_tlOps3.drop 97) (y := ReferenceIdeal.main_c_231) rfl rfl (by decide +kernel)
  rw [eK, eR]
  try rfl
theorem h97 : StableHlo.after (KernelIdeal.Tail.ks3 (F := Ideal)) WK (Proc.devRef .tc KernelIdeal.main_v541) = StableHlo.after (ReferenceIdeal.Hand.tlOps3 (F := Ideal)) WR (Proc.devRef .tc ReferenceIdeal.main_v632) :=
  by
  have eK := final_unary (KernelIdeal.Tail.writes_ks3 (F := Ideal)) WK 102 (rest := (KernelIdeal.Tail.ks3 (F := Ideal)).drop 103) (wrest := KernelIdeal.Tail.wr_ks3.drop 103) (y := KernelIdeal.main_v541) (x := KernelIdeal.main_c_212) rfl rfl (by decide +kernel) (by decide +kernel)
  have eR := final_unary (ReferenceIdeal.Hand.writes_tlOps3 (F := Ideal)) WR 97 (rest := (ReferenceIdeal.Hand.tlOps3 (F := Ideal)).drop 98) (wrest := ReferenceIdeal.Hand.wr_tlOps3.drop 98) (y := ReferenceIdeal.main_v632) (x := ReferenceIdeal.main_c_231) rfl rfl (by decide +kernel) (by decide +kernel)
  rw [eK, eR, h96 WK WR hP hLin hVal]
  try rfl
theorem h98 : StableHlo.after (KernelIdeal.Tail.ks3 (F := Ideal)) WK (Proc.devRef .tc KernelIdeal.main_v542) = StableHlo.after (ReferenceIdeal.Hand.tlOps3 (F := Ideal)) WR (Proc.devRef .tc ReferenceIdeal.main_v633) :=
  by
  have eK := final_binary (KernelIdeal.Tail.writes_ks3 (F := Ideal)) WK 103 (rest := (KernelIdeal.Tail.ks3 (F := Ideal)).drop 104) (wrest := KernelIdeal.Tail.wr_ks3.drop 104) (y := KernelIdeal.main_v542) (a := KernelIdeal.main_v522) (b := KernelIdeal.main_v541) rfl rfl (by decide +kernel) (by decide +kernel) (by decide +kernel)
  have eR := final_binary (ReferenceIdeal.Hand.writes_tlOps3 (F := Ideal)) WR 98 (rest := (ReferenceIdeal.Hand.tlOps3 (F := Ideal)).drop 99) (wrest := ReferenceIdeal.Hand.wr_tlOps3.drop 99) (y := ReferenceIdeal.main_v633) (a := ReferenceIdeal.main_v613) (b := ReferenceIdeal.main_v632) rfl rfl (by decide +kernel) (by decide +kernel) (by decide +kernel)
  rw [eK, eR, h67 WK WR hP hLin hVal, h97 WK WR hP hLin hVal]
  try rfl
theorem h99 : StableHlo.after (KernelIdeal.Tail.ks3 (F := Ideal)) WK (Proc.devRef .tc KernelIdeal.main_v543) = StableHlo.after (ReferenceIdeal.Hand.tlOps3 (F := Ideal)) WR (Proc.devRef .tc ReferenceIdeal.main_v634) :=
  by
  have eK := final_ternary (KernelIdeal.Tail.writes_ks3 (F := Ideal)) WK 104 (rest := (KernelIdeal.Tail.ks3 (F := Ideal)).drop 105) (wrest := KernelIdeal.Tail.wr_ks3.drop 105) (y := KernelIdeal.main_v543) (c := KernelIdeal.main_v540) (a := KernelIdeal.main_v542) (b := KernelIdeal.main_v522) rfl rfl (by decide +kernel) (by decide +kernel) (by decide +kernel) (by decide +kernel)
  have eR := final_ternary (ReferenceIdeal.Hand.writes_tlOps3 (F := Ideal)) WR 99 (rest := (ReferenceIdeal.Hand.tlOps3 (F := Ideal)).drop 100) (wrest := ReferenceIdeal.Hand.wr_tlOps3.drop 100) (y := ReferenceIdeal.main_v634) (c := ReferenceIdeal.main_v631) (a := ReferenceIdeal.main_v633) (b := ReferenceIdeal.main_v613) rfl rfl (by decide +kernel) (by decide +kernel) (by decide +kernel) (by decide +kernel)
  rw [eK, eR, h95 WK WR hP hLin hVal, h98 WK WR hP hLin hVal, h67 WK WR hP hLin hVal]
  try rfl
theorem h100 : StableHlo.after (KernelIdeal.Tail.ks3 (F := Ideal)) WK (Proc.devRef .tc KernelIdeal.main_v544) = StableHlo.after (ReferenceIdeal.Hand.tlOps3 (F := Ideal)) WR (Proc.devRef .tc ReferenceIdeal.main_v635) :=
  by
  have eK := final_unary (KernelIdeal.Tail.writes_ks3 (F := Ideal)) WK 105 (rest := (KernelIdeal.Tail.ks3 (F := Ideal)).drop 106) (wrest := KernelIdeal.Tail.wr_ks3.drop 106) (y := KernelIdeal.main_v544) (x := KernelIdeal.main_v543) rfl rfl (by decide +kernel) (by decide +kernel)
  have eR := final_unary (ReferenceIdeal.Hand.writes_tlOps3 (F := Ideal)) WR 100 (rest := (ReferenceIdeal.Hand.tlOps3 (F := Ideal)).drop 101) (wrest := ReferenceIdeal.Hand.wr_tlOps3.drop 101) (y := ReferenceIdeal.main_v635) (x := ReferenceIdeal.main_v634) rfl rfl (by decide +kernel) (by decide +kernel)
  rw [eK, eR, h99 WK WR hP hLin hVal]
  try rfl
theorem h101 : StableHlo.after (KernelIdeal.Tail.ks3 (F := Ideal)) WK (Proc.devRef .tc KernelIdeal.main_v545) = StableHlo.after (ReferenceIdeal.Hand.tlOps3 (F := Ideal)) WR (Proc.devRef .tc ReferenceIdeal.main_v636) :=
  by
  have eK := final_ternary (KernelIdeal.Tail.writes_ks3 (F := Ideal)) WK 106 (rest := (KernelIdeal.Tail.ks3 (F := Ideal)).drop 107) (wrest := KernelIdeal.Tail.wr_ks3.drop 107) (y := KernelIdeal.main_v545) (c := KernelIdeal.main_v537) (a := KernelIdeal.main_v544) (b := KernelIdeal.main_v538) rfl rfl (by decide +kernel) (by decide +kernel) (by decide +kernel) (by decide +kernel)
  have eR := final_ternary (ReferenceIdeal.Hand.writes_tlOps3 (F := Ideal)) WR 101 (rest := (ReferenceIdeal.Hand.tlOps3 (F := Ideal)).drop 102) (wrest := ReferenceIdeal.Hand.wr_tlOps3.drop 102) (y := ReferenceIdeal.main_v636) (c := ReferenceIdeal.main_v628) (a := ReferenceIdeal.main_v635) (b := ReferenceIdeal.main_v629) rfl rfl (by decide +kernel) (by decide +kernel) (by decide +kernel) (by decide +kernel)
  rw [eK, eR, h91 WK WR hP hLin hVal, h100 WK WR hP hLin hVal, h92 WK WR hP hLin hVal]
  try rfl
theorem h102 : StableHlo.after (KernelIdeal.Tail.ks3 (F := Ideal)) WK (Proc.devRef .tc KernelIdeal.main_c_213) = StableHlo.after (ReferenceIdeal.Hand.tlOps3 (F := Ideal)) WR (Proc.devRef .tc ReferenceIdeal.main_c_232) :=
  by
  have eK := final_nullary (KernelIdeal.Tail.writes_ks3 (F := Ideal)) WK 107 (rest := (KernelIdeal.Tail.ks3 (F := Ideal)).drop 108) (wrest := KernelIdeal.Tail.wr_ks3.drop 108) (y := KernelIdeal.main_c_213) rfl rfl (by decide +kernel)
  have eR := final_nullary (ReferenceIdeal.Hand.writes_tlOps3 (F := Ideal)) WR 102 (rest := (ReferenceIdeal.Hand.tlOps3 (F := Ideal)).drop 103) (wrest := ReferenceIdeal.Hand.wr_tlOps3.drop 103) (y := ReferenceIdeal.main_c_232) rfl rfl (by decide +kernel)
  rw [eK, eR]
  try rfl
theorem h103 : StableHlo.after (KernelIdeal.Tail.ks3 (F := Ideal)) WK (Proc.devRef .tc KernelIdeal.main_v546) = StableHlo.after (ReferenceIdeal.Hand.tlOps3 (F := Ideal)) WR (Proc.devRef .tc ReferenceIdeal.main_v637) :=
  by
  have eK := final_unary (KernelIdeal.Tail.writes_ks3 (F := Ideal)) WK 108 (rest := (KernelIdeal.Tail.ks3 (F := Ideal)).drop 109) (wrest := KernelIdeal.Tail.wr_ks3.drop 109) (y := KernelIdeal.main_v546) (x := KernelIdeal.main_c_213) rfl rfl (by decide +kernel) (by decide +kernel)
  have eR := final_unary (ReferenceIdeal.Hand.writes_tlOps3 (F := Ideal)) WR 103 (rest := (ReferenceIdeal.Hand.tlOps3 (F := Ideal)).drop 104) (wrest := ReferenceIdeal.Hand.wr_tlOps3.drop 104) (y := ReferenceIdeal.main_v637) (x := ReferenceIdeal.main_c_232) rfl rfl (by decide +kernel) (by decide +kernel)
  rw [eK, eR, h102 WK WR hP hLin hVal]
  try rfl
theorem h104 : StableHlo.after (KernelIdeal.Tail.ks3 (F := Ideal)) WK (Proc.devRef .tc KernelIdeal.main_v547) = StableHlo.after (ReferenceIdeal.Hand.tlOps3 (F := Ideal)) WR (Proc.devRef .tc ReferenceIdeal.main_v638) :=
  by
  have eK := final_binary (KernelIdeal.Tail.writes_ks3 (F := Ideal)) WK 109 (rest := (KernelIdeal.Tail.ks3 (F := Ideal)).drop 110) (wrest := KernelIdeal.Tail.wr_ks3.drop 110) (y := KernelIdeal.main_v547) (a := KernelIdeal.main_v521) (b := KernelIdeal.main_v546) rfl rfl (by decide +kernel) (by decide +kernel) (by decide +kernel)
  have eR := final_binary (ReferenceIdeal.Hand.writes_tlOps3 (F := Ideal)) WR 104 (rest := (ReferenceIdeal.Hand.tlOps3 (F := Ideal)).drop 105) (wrest := ReferenceIdeal.Hand.wr_tlOps3.drop 105) (y := ReferenceIdeal.main_v638) (a := ReferenceIdeal.main_v612) (b := ReferenceIdeal.main_v637) rfl rfl (by decide +kernel) (by decide +kernel) (by decide +kernel)
  rw [eK, eR, h64 WK WR hP hLin hVal, h103 WK WR hP hLin hVal]
  try rfl
theorem h105 : StableHlo.after (KernelIdeal.Tail.ks3 (F := Ideal)) WK (Proc.devRef .tc KernelIdeal.main_v548) = StableHlo.after (ReferenceIdeal.Hand.tlOps3 (F := Ideal)) WR (Proc.devRef .tc ReferenceIdeal.main_v639) :=
  by
  have eK := final_binary (KernelIdeal.Tail.writes_ks3 (F := Ideal)) WK 110 (rest := (KernelIdeal.Tail.ks3 (F := Ideal)).drop 111) (wrest := KernelIdeal.Tail.wr_ks3.drop 111) (y := KernelIdeal.main_v548) (a := KernelIdeal.main_v479) (b := KernelIdeal.main_v547) rfl rfl (by decide +kernel) (by decide +kernel) (by decide +kernel)
  have eR := final_binary (ReferenceIdeal.Hand.writes_tlOps3 (F := Ideal)) WR 105 (rest := (ReferenceIdeal.Hand.tlOps3 (F := Ideal)).drop 106) (wrest := ReferenceIdeal.Hand.wr_tlOps3.drop 106) (y := ReferenceIdeal.main_v639) (a := ReferenceIdeal.main_v557) (b := ReferenceIdeal.main_v638) rfl rfl (by decide +kernel) (by decide +kernel) (by decide +kernel)
  rw [eK, eR, hVal, h104 WK WR hP hLin hVal]
  try rfl
theorem h106 : StableHlo.after (KernelIdeal.Tail.ks3 (F := Ideal)) WK (Proc.devRef .tc KernelIdeal.main_c_214) = StableHlo.after (ReferenceIdeal.Hand.tlOps3 (F := Ideal)) WR (Proc.devRef .tc ReferenceIdeal.main_c_233) :=
  by
  have eK := final_nullary (KernelIdeal.Tail.writes_ks3 (F := Ideal)) WK 111 (rest := (KernelIdeal.Tail.ks3 (F := Ideal)).drop 112) (wrest := KernelIdeal.Tail.wr_ks3.drop 112) (y := KernelIdeal.main_c_214) rfl rfl (by decide +kernel)
  have eR := final_nullary (ReferenceIdeal.Hand.writes_tlOps3 (F := Ideal)) WR 106 (rest := (ReferenceIdeal.Hand.tlOps3 (F := Ideal)).drop 107) (wrest := ReferenceIdeal.Hand.wr_tlOps3.drop 107) (y := ReferenceIdeal.main_c_233) rfl rfl (by decide +kernel)
  rw [eK, eR]
  try rfl
theorem h107 : StableHlo.after (KernelIdeal.Tail.ks3 (F := Ideal)) WK (Proc.devRef .tc KernelIdeal.main_v549) = StableHlo.after (ReferenceIdeal.Hand.tlOps3 (F := Ideal)) WR (Proc.devRef .tc ReferenceIdeal.main_v640) :=
  by
  have eK := final_unary (KernelIdeal.Tail.writes_ks3 (F := Ideal)) WK 112 (rest := (KernelIdeal.Tail.ks3 (F := Ideal)).drop 113) (wrest := KernelIdeal.Tail.wr_ks3.drop 113) (y := KernelIdeal.main_v549) (x := KernelIdeal.main_c_214) rfl rfl (by decide +kernel) (by decide +kernel)
  have eR := final_unary (ReferenceIdeal.Hand.writes_tlOps3 (F := Ideal)) WR 107 (rest := (ReferenceIdeal.Hand.tlOps3 (F := Ideal)).drop 108) (wrest := ReferenceIdeal.Hand.wr_tlOps3.drop 108) (y := ReferenceIdeal.main_v640) (x := ReferenceIdeal.main_c_233) rfl rfl (by decide +kernel) (by decide +kernel)
  rw [eK, eR, h106 WK WR hP hLin hVal]
  try rfl
theorem h108 : StableHlo.after (KernelIdeal.Tail.ks3 (F := Ideal)) WK (Proc.devRef .tc KernelIdeal.main_v550) = StableHlo.after (ReferenceIdeal.Hand.tlOps3 (F := Ideal)) WR (Proc.devRef .tc ReferenceIdeal.main_v641) :=
  by
  have eK := final_binary (KernelIdeal.Tail.writes_ks3 (F := Ideal)) WK 113 (rest := (KernelIdeal.Tail.ks3 (F := Ideal)).drop 114) (wrest := KernelIdeal.Tail.wr_ks3.drop 114) (y := KernelIdeal.main_v550) (a := KernelIdeal.main_v545) (b := KernelIdeal.main_v549) rfl rfl (by decide +kernel) (by decide +kernel) (by decide +kernel)
  have eR := final_binary (ReferenceIdeal.Hand.writes_tlOps3 (F := Ideal)) WR 108 (rest := (ReferenceIdeal.Hand.tlOps3 (F := Ideal)).drop 109) (wrest := ReferenceIdeal.Hand.wr_tlOps3.drop 109) (y := ReferenceIdeal.main_v641) (a := ReferenceIdeal.main_v636) (b := ReferenceIdeal.main_v640) rfl rfl (by decide +kernel) (by decide +kernel) (by decide +kernel)
  rw [eK, eR, h101 WK WR hP hLin hVal, h107 WK WR hP hLin hVal]
  try rfl
theorem h109 : StableHlo.after (KernelIdeal.Tail.ks3 (F := Ideal)) WK (Proc.devRef .tc KernelIdeal.main_v551) = StableHlo.after (ReferenceIdeal.Hand.tlOps3 (F := Ideal)) WR (Proc.devRef .tc ReferenceIdeal.main_v642) :=
  by
  have eK := final_binary (KernelIdeal.Tail.writes_ks3 (F := Ideal)) WK 114 (rest := (KernelIdeal.Tail.ks3 (F := Ideal)).drop 115) (wrest := KernelIdeal.Tail.wr_ks3.drop 115) (y := KernelIdeal.main_v551) (a := KernelIdeal.main_v548) (b := KernelIdeal.main_v550) rfl rfl (by decide +kernel) (by decide +kernel) (by decide +kernel)
  have eR := final_binary (ReferenceIdeal.Hand.writes_tlOps3 (F := Ideal)) WR 109 (rest := (ReferenceIdeal.Hand.tlOps3 (F := Ideal)).drop 110) (wrest := ReferenceIdeal.Hand.wr_tlOps3.drop 110) (y := ReferenceIdeal.main_v642) (a := ReferenceIdeal.main_v639) (b := ReferenceIdeal.main_v641) rfl rfl (by decide +kernel) (by decide +kernel) (by decide +kernel)
  rw [eK, eR, h105 WK WR hP hLin hVal, h108 WK WR hP hLin hVal]
  try rfl
theorem h110 : StableHlo.after (KernelIdeal.Tail.ks3 (F := Ideal)) WK (Proc.devRef .tc KernelIdeal.main_c_215) = StableHlo.after (ReferenceIdeal.Hand.tlOps3 (F := Ideal)) WR (Proc.devRef .tc ReferenceIdeal.main_c_234) :=
  by
  have eK := final_nullary (KernelIdeal.Tail.writes_ks3 (F := Ideal)) WK 115 (rest := (KernelIdeal.Tail.ks3 (F := Ideal)).drop 116) (wrest := KernelIdeal.Tail.wr_ks3.drop 116) (y := KernelIdeal.main_c_215) rfl rfl (by decide +kernel)
  have eR := final_nullary (ReferenceIdeal.Hand.writes_tlOps3 (F := Ideal)) WR 110 (rest := (ReferenceIdeal.Hand.tlOps3 (F := Ideal)).drop 111) (wrest := ReferenceIdeal.Hand.wr_tlOps3.drop 111) (y := ReferenceIdeal.main_c_234) rfl rfl (by decide +kernel)
  rw [eK, eR]
  try rfl
theorem h111 : StableHlo.after (KernelIdeal.Tail.ks3 (F := Ideal)) WK (Proc.devRef .tc KernelIdeal.main_call64_v0) = StableHlo.after (ReferenceIdeal.Hand.tlOps3 (F := Ideal)) WR (Proc.devRef .tc ReferenceIdeal.main_call68_v0) :=
  by
  have eK := final_unary (KernelIdeal.Tail.writes_ks3 (F := Ideal)) WK 116 (rest := (KernelIdeal.Tail.ks3 (F := Ideal)).drop 117) (wrest := KernelIdeal.Tail.wr_ks3.drop 117) (y := KernelIdeal.main_call64_v0) (x := KernelIdeal.main_c_215) rfl rfl (by decide +kernel) (by decide +kernel)
  have eR := final_unary (ReferenceIdeal.Hand.writes_tlOps3 (F := Ideal)) WR 111 (rest := (ReferenceIdeal.Hand.tlOps3 (F := Ideal)).drop 112) (wrest := ReferenceIdeal.Hand.wr_tlOps3.drop 112) (y := ReferenceIdeal.main_call68_v0) (x := ReferenceIdeal.main_c_234) rfl rfl (by decide +kernel) (by decide +kernel)
  rw [eK, eR, h110 WK WR hP hLin hVal]
  try rfl
theorem h112 : StableHlo.after (KernelIdeal.Tail.ks3 (F := Ideal)) WK (Proc.devRef .tc KernelIdeal.main_call64_v1) = StableHlo.after (ReferenceIdeal.Hand.tlOps3 (F := Ideal)) WR (Proc.devRef .tc ReferenceIdeal.main_call68_v1) :=
  by
  have eK := final_unary (KernelIdeal.Tail.writes_ks3 (F := Ideal)) WK 117 (rest := (KernelIdeal.Tail.ks3 (F := Ideal)).drop 118) (wrest := KernelIdeal.Tail.wr_ks3.drop 118) (y := KernelIdeal.main_call64_v1) (x := KernelIdeal.main_call64_v0) rfl rfl (by decide +kernel) (by decide +kernel)
  have eR := final_unary (ReferenceIdeal.Hand.writes_tlOps3 (F := Ideal)) WR 112 (rest := (ReferenceIdeal.Hand.tlOps3 (F := Ideal)).drop 113) (wrest := ReferenceIdeal.Hand.wr_tlOps3.drop 113) (y := ReferenceIdeal.main_call68_v1) (x := ReferenceIdeal.main_call68_v0) rfl rfl (by decide +kernel) (by decide +kernel)
  rw [eK, eR, h111 WK WR hP hLin hVal]
  try rfl
theorem h113 : StableHlo.after (KernelIdeal.Tail.ks3 (F := Ideal)) WK (Proc.devRef .tc KernelIdeal.main_v552) = StableHlo.after (ReferenceIdeal.Hand.tlOps3 (F := Ideal)) WR (Proc.devRef .tc ReferenceIdeal.main_v643) :=
  by
  have eK := final_ternary (KernelIdeal.Tail.writes_ks3 (F := Ideal)) WK 118 (rest := (KernelIdeal.Tail.ks3 (F := Ideal)).drop 119) (wrest := KernelIdeal.Tail.wr_ks3.drop 119) (y := KernelIdeal.main_v552) (c := KernelIdeal.main_v551) (a := KernelIdeal.main_v521) (b := KernelIdeal.main_call64_v1) rfl rfl (by decide +kernel) (by decide +kernel) (by decide +kernel) (by decide +kernel)
  have eR := final_ternary (ReferenceIdeal.Hand.writes_tlOps3 (F := Ideal)) WR 113 (rest := (ReferenceIdeal.Hand.tlOps3 (F := Ideal)).drop 114) (wrest := ReferenceIdeal.Hand.wr_tlOps3.drop 114) (y := ReferenceIdeal.main_v643) (c := ReferenceIdeal.main_v642) (a := ReferenceIdeal.main_v612) (b := ReferenceIdeal.main_call68_v1) rfl rfl (by decide +kernel) (by decide +kernel) (by decide +kernel) (by decide +kernel)
  rw [eK, eR, h109 WK WR hP hLin hVal, h64 WK WR hP hLin hVal, h112 WK WR hP hLin hVal]
  try rfl
theorem h114 : StableHlo.after (KernelIdeal.Tail.ks3 (F := Ideal)) WK (Proc.devRef .tc KernelIdeal.main_c_216) = StableHlo.after (ReferenceIdeal.Hand.tlOps3 (F := Ideal)) WR (Proc.devRef .tc ReferenceIdeal.main_c_235) :=
  by
  have eK := final_nullary (KernelIdeal.Tail.writes_ks3 (F := Ideal)) WK 119 (rest := (KernelIdeal.Tail.ks3 (F := Ideal)).drop 120) (wrest := KernelIdeal.Tail.wr_ks3.drop 120) (y := KernelIdeal.main_c_216) rfl rfl (by decide +kernel)
  have eR := final_nullary (ReferenceIdeal.Hand.writes_tlOps3 (F := Ideal)) WR 114 (rest := (ReferenceIdeal.Hand.tlOps3 (F := Ideal)).drop 115) (wrest := ReferenceIdeal.Hand.wr_tlOps3.drop 115) (y := ReferenceIdeal.main_c_235) rfl rfl (by decide +kernel)
  rw [eK, eR]
  try rfl
theorem h115 : StableHlo.after (KernelIdeal.Tail.ks3 (F := Ideal)) WK (Proc.devRef .tc KernelIdeal.main_call65_v0) = StableHlo.after (ReferenceIdeal.Hand.tlOps3 (F := Ideal)) WR (Proc.devRef .tc ReferenceIdeal.main_call69_v0) :=
  by
  have eK := final_unary (KernelIdeal.Tail.writes_ks3 (F := Ideal)) WK 120 (rest := (KernelIdeal.Tail.ks3 (F := Ideal)).drop 121) (wrest := KernelIdeal.Tail.wr_ks3.drop 121) (y := KernelIdeal.main_call65_v0) (x := KernelIdeal.main_c_216) rfl rfl (by decide +kernel) (by decide +kernel)
  have eR := final_unary (ReferenceIdeal.Hand.writes_tlOps3 (F := Ideal)) WR 115 (rest := (ReferenceIdeal.Hand.tlOps3 (F := Ideal)).drop 116) (wrest := ReferenceIdeal.Hand.wr_tlOps3.drop 116) (y := ReferenceIdeal.main_call69_v0) (x := ReferenceIdeal.main_c_235) rfl rfl (by decide +kernel) (by decide +kernel)
  rw [eK, eR, h114 WK WR hP hLin hVal]
  try rfl
theorem h116 : StableHlo.after (KernelIdeal.Tail.ks3 (F := Ideal)) WK (Proc.devRef .tc KernelIdeal.main_call65_v1) = StableHlo.after (ReferenceIdeal.Hand.tlOps3 (F := Ideal)) WR (Proc.devRef .tc ReferenceIdeal.main_call69_v1) :=
  by
  have eK := final_unary (KernelIdeal.Tail.writes_ks3 (F := Ideal)) WK 121 (rest := (KernelIdeal.Tail.ks3 (F := Ideal)).drop 122) (wrest := KernelIdeal.Tail.wr_ks3.drop 122) (y := KernelIdeal.main_call65_v1) (x := KernelIdeal.main_call65_v0) rfl rfl (by decide +kernel) (by decide +kernel)
  have eR := final_unary (ReferenceIdeal.Hand.writes_tlOps3 (F := Ideal)) WR 116 (rest := (ReferenceIdeal.Hand.tlOps3 (F := Ideal)).drop 117) (wrest := ReferenceIdeal.Hand.wr_tlOps3.drop 117) (y := ReferenceIdeal.main_call69_v1) (x := ReferenceIdeal.main_call69_v0) rfl rfl (by decide +kernel) (by decide +kernel)
  rw [eK, eR, h115 WK WR hP hLin hVal]
  try rfl
theorem h117 : StableHlo.after (KernelIdeal.Tail.ks3 (F := Ideal)) WK (Proc.devRef .tc KernelIdeal.main_v553) = StableHlo.after (ReferenceIdeal.Hand.tlOps3 (F := Ideal)) WR (Proc.devRef .tc ReferenceIdeal.main_v644) :=
  by
  have eK := final_ternary (KernelIdeal.Tail.writes_ks3 (F := Ideal)) WK 122 (rest := (KernelIdeal.Tail.ks3 (F := Ideal)).drop 123) (wrest := KernelIdeal.Tail.wr_ks3.drop 123) (y := KernelIdeal.main_v553) (c := KernelIdeal.main_v551) (a := KernelIdeal.main_v545) (b := KernelIdeal.main_call65_v1) rfl rfl (by decide +kernel) (by decide +kernel) (by decide +kernel) (by decide +kernel)
  have eR := final_ternary (ReferenceIdeal.Hand.writes_tlOps3 (F := Ideal)) WR 117 (rest := (ReferenceIdeal.Hand.tlOps3 (F := Ideal)).drop 118) (wrest := ReferenceIdeal.Hand.wr_tlOps3.drop 118) (y := ReferenceIdeal.main_v644) (c := ReferenceIdeal.main_v642) (a := ReferenceIdeal.main_v636) (b := ReferenceIdeal.main_call69_v1) rfl rfl (by decide +kernel) (by decide +kernel) (by decide +kernel) (by decide +kernel)
  rw [eK, eR, h109 WK WR hP hLin hVal, h101 WK WR hP hLin hVal, h116 WK WR hP hLin hVal]
  try rfl
theorem h118 : StableHlo.after (KernelIdeal.Tail.ks3 (F := Ideal)) WK (Proc.devRef .tc KernelIdeal.main_cst_217) = StableHlo.after (ReferenceIdeal.Hand.tlOps3 (F := Ideal)) WR (Proc.devRef .tc ReferenceIdeal.main_cst_236) :=
  by
  have eK := final_nullary (KernelIdeal.Tail.writes_ks3 (F := Ideal)) WK 123 (rest := (KernelIdeal.Tail.ks3 (F := Ideal)).drop 124) (wrest := KernelIdeal.Tail.wr_ks3.drop 124) (y := KernelIdeal.main_cst_217) rfl rfl (by decide +kernel)
  have eR := final_nullary (ReferenceIdeal.Hand.writes_tlOps3 (F := Ideal)) WR 118 (rest := (ReferenceIdeal.Hand.tlOps3 (F := Ideal)).drop 119) (wrest := ReferenceIdeal.Hand.wr_tlOps3.drop 119) (y := ReferenceIdeal.main_cst_236) rfl rfl (by decide +kernel)
  rw [eK, eR]
  try rfl
theorem h119 : StableHlo.after (KernelIdeal.Tail.ks3 (F := Ideal)) WK (Proc.devRef .tc KernelIdeal.main_v554) = StableHlo.after (ReferenceIdeal.Hand.tlOps3 (F := Ideal)) WR (Proc.devRef .tc ReferenceIdeal.main_v645) :=
  by
  have eK := final_unary (KernelIdeal.Tail.writes_ks3 (F := Ideal)) WK 124 (rest := (KernelIdeal.Tail.ks3 (F := Ideal)).drop 125) (wrest := KernelIdeal.Tail.wr_ks3.drop 125) (y := KernelIdeal.main_v554) (x := KernelIdeal.main_cst_217) rfl rfl (by decide +kernel) (by decide +kernel)
  have eR := final_unary (ReferenceIdeal.Hand.writes_tlOps3 (F := Ideal)) WR 119 (rest := (ReferenceIdeal.Hand.tlOps3 (F := Ideal)).drop 120) (wrest := ReferenceIdeal.Hand.wr_tlOps3.drop 120) (y := ReferenceIdeal.main_v645) (x := ReferenceIdeal.main_cst_236) rfl rfl (by decide +kernel) (by decide +kernel)
  rw [eK, eR, h118 WK WR hP hLin hVal]
  try rfl
theorem h120 : StableHlo.after (KernelIdeal.Tail.ks3 (F := Ideal)) WK (Proc.devRef .tc KernelIdeal.main_v555) = StableHlo.after (ReferenceIdeal.Hand.tlOps3 (F := Ideal)) WR (Proc.devRef .tc ReferenceIdeal.main_v646) :=
  by
  have eK := final_unary (KernelIdeal.Tail.writes_ks3 (F := Ideal)) WK 125 (rest := (KernelIdeal.Tail.ks3 (F := Ideal)).drop 126) (wrest := KernelIdeal.Tail.wr_ks3.drop 126) (y := KernelIdeal.main_v555) (x := KernelIdeal.main_v551) rfl rfl (by decide +kernel) (by decide +kernel)
  have eR := final_unary (ReferenceIdeal.Hand.writes_tlOps3 (F := Ideal)) WR 120 (rest := (ReferenceIdeal.Hand.tlOps3 (F := Ideal)).drop 121) (wrest := ReferenceIdeal.Hand.wr_tlOps3.drop 121) (y := ReferenceIdeal.main_v646) (x := ReferenceIdeal.main_v642) rfl rfl (by decide +kernel) (by decide +kernel)
  rw [eK, eR, h109 WK WR hP hLin hVal]
  try rfl
theorem h121 : StableHlo.after (KernelIdeal.Tail.ks3 (F := Ideal)) WK (Proc.devRef .tc KernelIdeal.main_cst_218) = StableHlo.after (ReferenceIdeal.Hand.tlOps3 (F := Ideal)) WR (Proc.devRef .tc ReferenceIdeal.main_cst_237) :=
  by
  have eK := final_nullary (KernelIdeal.Tail.writes_ks3 (F := Ideal)) WK 126 (rest := (KernelIdeal.Tail.ks3 (F := Ideal)).drop 127) (wrest := KernelIdeal.Tail.wr_ks3.drop 127) (y := KernelIdeal.main_cst_218) rfl rfl (by decide +kernel)
  have eR := final_nullary (ReferenceIdeal.Hand.writes_tlOps3 (F := Ideal)) WR 121 (rest := (ReferenceIdeal.Hand.tlOps3 (F := Ideal)).drop 122) (wrest := ReferenceIdeal.Hand.wr_tlOps3.drop 122) (y := ReferenceIdeal.main_cst_237) rfl rfl (by decide +kernel)
  rw [eK, eR]
  try rfl
theorem h122 : StableHlo.after (KernelIdeal.Tail.ks3 (F := Ideal)) WK (Proc.devRef .tc KernelIdeal.main_call66_v0) = StableHlo.after (ReferenceIdeal.Hand.tlOps3 (F := Ideal)) WR (Proc.devRef .tc ReferenceIdeal.main_call70_v0) :=
  by
  have eK := final_unary (KernelIdeal.Tail.writes_ks3 (F := Ideal)) WK 127 (rest := (KernelIdeal.Tail.ks3 (F := Ideal)).drop 128) (wrest := KernelIdeal.Tail.wr_ks3.drop 128) (y := KernelIdeal.main_call66_v0) (x := KernelIdeal.main_cst_218) rfl rfl (by decide +kernel) (by decide +kernel)
  have eR := final_unary (ReferenceIdeal.Hand.writes_tlOps3 (F := Ideal)) WR 122 (rest := (ReferenceIdeal.Hand.tlOps3 (F := Ideal)).drop 123) (wrest := ReferenceIdeal.Hand.wr_tlOps3.drop 123) (y := ReferenceIdeal.main_call70_v0) (x := ReferenceIdeal.main_cst_237) rfl rfl (by decide +kernel) (by decide +kernel)
  rw [eK, eR, h121 WK WR hP hLin hVal]
  try rfl
theorem h123 : StableHlo.after (KernelIdeal.Tail.ks3 (F := Ideal)) WK (Proc.devRef .tc KernelIdeal.main_call66_v1) = StableHlo.after (ReferenceIdeal.Hand.tlOps3 (F := Ideal)) WR (Proc.devRef .tc ReferenceIdeal.main_call70_v1) :=
  by
  have eK := final_unary (KernelIdeal.Tail.writes_ks3 (F := Ideal)) WK 128 (rest := (KernelIdeal.Tail.ks3 (F := Ideal)).drop 129) (wrest := KernelIdeal.Tail.wr_ks3.drop 129) (y := KernelIdeal.main_call66_v1) (x := KernelIdeal.main_v555) rfl rfl (by decide +kernel) (by decide +kernel)
  have eR := final_unary (ReferenceIdeal.Hand.writes_tlOps3 (F := Ideal)) WR 123 (rest := (ReferenceIdeal.Hand.tlOps3 (F := Ideal)).drop 124) (wrest := ReferenceIdeal.Hand.wr_tlOps3.drop 124) (y := ReferenceIdeal.main_call70_v1) (x := ReferenceIdeal.main_v646) rfl rfl (by decide +kernel) (by decide +kernel)
  rw [eK, eR, h120 WK WR hP hLin hVal]
  try rfl
theorem h124 : StableHlo.after (KernelIdeal.Tail.ks3 (F := Ideal)) WK (Proc.devRef .tc KernelIdeal.main_call66_v2) = StableHlo.after (ReferenceIdeal.Hand.tlOps3 (F := Ideal)) WR (Proc.devRef .tc ReferenceIdeal.main_call70_v2) :=
  by
  have eK := final_unary (KernelIdeal.Tail.writes_ks3 (F := Ideal)) WK 129 (rest := (KernelIdeal.Tail.ks3 (F := Ideal)).drop 130) (wrest := KernelIdeal.Tail.wr_ks3.drop 130) (y := KernelIdeal.main_call66_v2) (x := KernelIdeal.main_call66_v0) rfl rfl (by decide +kernel) (by decide +kernel)
  have eR := final_unary (ReferenceIdeal.Hand.writes_tlOps3 (F := Ideal)) WR 124 (rest := (ReferenceIdeal.Hand.tlOps3 (F := Ideal)).drop 125) (wrest := ReferenceIdeal.Hand.wr_tlOps3.drop 125) (y := ReferenceIdeal.main_call70_v2) (x := ReferenceIdeal.main_call70_v0) rfl rfl (by decide +kernel) (by decide +kernel)
  rw [eK, eR, h122 WK WR hP hLin hVal]
  try rfl
theorem h125 : StableHlo.after (KernelIdeal.Tail.ks3 (F := Ideal)) WK (Proc.devRef .tc KernelIdeal.main_v556) = StableHlo.after (ReferenceIdeal.Hand.tlOps3 (F := Ideal)) WR (Proc.devRef .tc ReferenceIdeal.main_v647) :=
  by
  have eK := final_ternary (KernelIdeal.Tail.writes_ks3 (F := Ideal)) WK 130 (rest := (KernelIdeal.Tail.ks3 (F := Ideal)).drop 131) (wrest := KernelIdeal.Tail.wr_ks3.drop 131) (y := KernelIdeal.main_v556) (c := KernelIdeal.main_call66_v1) (a := KernelIdeal.main_v55) (b := KernelIdeal.main_call66_v2) rfl rfl (by decide +kernel) (by decide +kernel) (by decide +kernel) (by decide +kernel)
  have eR := final_ternary (ReferenceIdeal.Hand.writes_tlOps3 (F := Ideal)) WR 125 (rest := (ReferenceIdeal.Hand.tlOps3 (F := Ideal)).drop 126) (wrest := ReferenceIdeal.Hand.wr_tlOps3.drop 126) (y := ReferenceIdeal.main_v647) (c := ReferenceIdeal.main_call70_v1) (a := ReferenceIdeal.main_v541) (b := ReferenceIdeal.main_call70_v2) rfl rfl (by decide +kernel) (by decide +kernel) (by decide +kernel) (by decide +kernel)
  rw [eK, eR, h123 WK WR hP hLin hVal, hP, h124 WK WR hP hLin hVal]
  try rfl
theorem h126 : StableHlo.after (KernelIdeal.Tail.ks3 (F := Ideal)) WK (Proc.devRef .tc KernelIdeal.main_c_219) = StableHlo.after (ReferenceIdeal.Hand.tlOps3 (F := Ideal)) WR (Proc.devRef .tc ReferenceIdeal.main_c_238) :=
  by
  have eK := final_nullary (KernelIdeal.Tail.writes_ks3 (F := Ideal)) WK 131 (rest := (KernelIdeal.Tail.ks3 (F := Ideal)).drop 132) (wrest := KernelIdeal.Tail.wr_ks3.drop 132) (y := KernelIdeal.main_c_219) rfl rfl (by decide +kernel)
  have eR := final_nullary (ReferenceIdeal.Hand.writes_tlOps3 (F := Ideal)) WR 126 (rest := (ReferenceIdeal.Hand.tlOps3 (F := Ideal)).drop 127) (wrest := ReferenceIdeal.Hand.wr_tlOps3.drop 127) (y := ReferenceIdeal.main_c_238) rfl rfl (by decide +kernel)
  rw [eK, eR]
  try rfl
theorem h127 : StableHlo.after (KernelIdeal.Tail.ks3 (F := Ideal)) WK (Proc.devRef .tc KernelIdeal.main_v557) = StableHlo.after (ReferenceIdeal.Hand.tlOps3 (F := Ideal)) WR (Proc.devRef .tc ReferenceIdeal.main_v648) :=
  by
  have eK := final_unary (KernelIdeal.Tail.writes_ks3 (F := Ideal)) WK 132 (rest := (KernelIdeal.Tail.ks3 (F := Ideal)).drop 133) (wrest := KernelIdeal.Tail.wr_ks3.drop 133) (y := KernelIdeal.main_v557) (x := KernelIdeal.main_c_219) rfl rfl (by decide +kernel) (by decide +kernel)
  have eR := final_unary (ReferenceIdeal.Hand.writes_tlOps3 (F := Ideal)) WR 127 (rest := (ReferenceIdeal.Hand.tlOps3 (F := Ideal)).drop 128) (wrest := ReferenceIdeal.Hand.wr_tlOps3.drop 128) (y := ReferenceIdeal.main_v648) (x := ReferenceIdeal.main_c_238) rfl rfl (by decide +kernel) (by decide +kernel)
  rw [eK, eR, h126 WK WR hP hLin hVal]
  try rfl
theorem h128 : StableHlo.after (KernelIdeal.Tail.ks3 (F := Ideal)) WK (Proc.devRef .tc KernelIdeal.main_v558) = StableHlo.after (ReferenceIdeal.Hand.tlOps3 (F := Ideal)) WR (Proc.devRef .tc ReferenceIdeal.main_v649) :=
  by
  have eK := final_binary (KernelIdeal.Tail.writes_ks3 (F := Ideal)) WK 133 (rest := (KernelIdeal.Tail.ks3 (F := Ideal)).drop 134) (wrest := KernelIdeal.Tail.wr_ks3.drop 134) (y := KernelIdeal.main_v558) (a := KernelIdeal.main_v552) (b := KernelIdeal.main_v557) rfl rfl (by decide +kernel) (by decide +kernel) (by decide +kernel)
  have eR := final_binary (ReferenceIdeal.Hand.writes_tlOps3 (F := Ideal)) WR 128 (rest := (ReferenceIdeal.Hand.tlOps3 (F := Ideal)).drop 129) (wrest := ReferenceIdeal.Hand.wr_tlOps3.drop 129) (y := ReferenceIdeal.main_v649) (a := ReferenceIdeal.main_v643) (b := ReferenceIdeal.main_v648) rfl rfl (by decide +kernel) (by decide +kernel) (by decide +kernel)
  rw [eK, eR, h113 WK WR hP hLin hVal, h127 WK WR hP hLin hVal]
  try rfl
theorem h129 : StableHlo.after (KernelIdeal.Tail.ks3 (F := Ideal)) WK (Proc.devRef .tc KernelIdeal.main_c_220) = StableHlo.after (ReferenceIdeal.Hand.tlOps3 (F := Ideal)) WR (Proc.devRef .tc ReferenceIdeal.main_c_239) :=
  by
  have eK := final_nullary (KernelIdeal.Tail.writes_ks3 (F := Ideal)) WK 134 (rest := (KernelIdeal.Tail.ks3 (F := Ideal)).drop 135) (wrest := KernelIdeal.Tail.wr_ks3.drop 135) (y := KernelIdeal.main_c_220) rfl rfl (by decide +kernel)
  have eR := final_nullary (ReferenceIdeal.Hand.writes_tlOps3 (F := Ideal)) WR 129 (rest := (ReferenceIdeal.Hand.tlOps3 (F := Ideal)).drop 130) (wrest := ReferenceIdeal.Hand.wr_tlOps3.drop 130) (y := ReferenceIdeal.main_c_239) rfl rfl (by decide +kernel)
  rw [eK, eR]
  try rfl
theorem h130 : StableHlo.after (KernelIdeal.Tail.ks3 (F := Ideal)) WK (Proc.devRef .tc KernelIdeal.main_v559) = StableHlo.after (ReferenceIdeal.Hand.tlOps3 (F := Ideal)) WR (Proc.devRef .tc ReferenceIdeal.main_v650) :=
  by
  have eK := final_unary (KernelIdeal.Tail.writes_ks3 (F := Ideal)) WK 135 (rest := (KernelIdeal.Tail.ks3 (F := Ideal)).drop 136) (wrest := KernelIdeal.Tail.wr_ks3.drop 136) (y := KernelIdeal.main_v559) (x := KernelIdeal.main_c_220) rfl rfl (by decide +kernel) (by decide +kernel)
  have eR := final_unary (ReferenceIdeal.Hand.writes_tlOps3 (F := Ideal)) WR 130 (rest := (ReferenceIdeal.Hand.tlOps3 (F := Ideal)).drop 131) (wrest := ReferenceIdeal.Hand.wr_tlOps3.drop 131) (y := ReferenceIdeal.main_v650) (x := ReferenceIdeal.main_c_239) rfl rfl (by decide +kernel) (by decide +kernel)
  rw [eK, eR, h129 WK WR hP hLin hVal]
  try rfl
theorem h131 : StableHlo.after (KernelIdeal.Tail.ks3 (F := Ideal)) WK (Proc.devRef .tc KernelIdeal.main_v560) = StableHlo.after (ReferenceIdeal.Hand.tlOps3 (F := Ideal)) WR (Proc.devRef .tc ReferenceIdeal.main_v651) :=
  by
  have eK := final_binary (KernelIdeal.Tail.writes_ks3 (F := Ideal)) WK 136 (rest := (KernelIdeal.Tail.ks3 (F := Ideal)).drop 137) (wrest := KernelIdeal.Tail.wr_ks3.drop 137) (y := KernelIdeal.main_v560) (a := KernelIdeal.main_v552) (b := KernelIdeal.main_v559) rfl rfl (by decide +kernel) (by decide +kernel) (by decide +kernel)
  have eR := final_binary (ReferenceIdeal.Hand.writes_tlOps3 (F := Ideal)) WR 131 (rest := (ReferenceIdeal.Hand.tlOps3 (F := Ideal)).drop 132) (wrest := ReferenceIdeal.Hand.wr_tlOps3.drop 132) (y := ReferenceIdeal.main_v651) (a := ReferenceIdeal.main_v643) (b := ReferenceIdeal.main_v650) rfl rfl (by decide +kernel) (by decide +kernel) (by decide +kernel)
  rw [eK, eR, h113 WK WR hP hLin hVal, h130 WK WR hP hLin hVal]
  try rfl
theorem h132 : StableHlo.after (KernelIdeal.Tail.ks3 (F := Ideal)) WK (Proc.devRef .tc KernelIdeal.main_v561) = StableHlo.after (ReferenceIdeal.Hand.tlOps3 (F := Ideal)) WR (Proc.devRef .tc ReferenceIdeal.main_v652) :=
  by
  have eK := final_ternary (KernelIdeal.Tail.writes_ks3 (F := Ideal)) WK 137 (rest := (KernelIdeal.Tail.ks3 (F := Ideal)).drop 138) (wrest := KernelIdeal.Tail.wr_ks3.drop 138) (y := KernelIdeal.main_v561) (c := KernelIdeal.main_v558) (a := KernelIdeal.main_v560) (b := KernelIdeal.main_v552) rfl rfl (by decide +kernel) (by decide +kernel) (by decide +kernel) (by decide +kernel)
  have eR := final_ternary (ReferenceIdeal.Hand.writes_tlOps3 (F := Ideal)) WR 132 (rest := (ReferenceIdeal.Hand.tlOps3 (F := Ideal)).drop 133) (wrest := ReferenceIdeal.Hand.wr_tlOps3.drop 133) (y := ReferenceIdeal.main_v652) (c := ReferenceIdeal.main_v649) (a := ReferenceIdeal.main_v651) (b := ReferenceIdeal.main_v643) rfl rfl (by decide +kernel) (by decide +kernel) (by decide +kernel) (by decide +kernel)
  rw [eK, eR, h128 WK WR hP hLin hVal, h131 WK WR hP hLin hVal, h113 WK WR hP hLin hVal]
  try rfl
theorem h133 : StableHlo.after (KernelIdeal.Tail.ks3 (F := Ideal)) WK (Proc.devRef .tc KernelIdeal.main_c_221) = StableHlo.after (ReferenceIdeal.Hand.tlOps3 (F := Ideal)) WR (Proc.devRef .tc ReferenceIdeal.main_c_240) :=
  by
  have eK := final_nullary (KernelIdeal.Tail.writes_ks3 (F := Ideal)) WK 138 (rest := (KernelIdeal.Tail.ks3 (F := Ideal)).drop 139) (wrest := KernelIdeal.Tail.wr_ks3.drop 139) (y := KernelIdeal.main_c_221) rfl rfl (by decide +kernel)
  have eR := final_nullary (ReferenceIdeal.Hand.writes_tlOps3 (F := Ideal)) WR 133 (rest := (ReferenceIdeal.Hand.tlOps3 (F := Ideal)).drop 134) (wrest := ReferenceIdeal.Hand.wr_tlOps3.drop 134) (y := ReferenceIdeal.main_c_240) rfl rfl (by decide +kernel)
  rw [eK, eR]
  try rfl
theorem h134 : StableHlo.after (KernelIdeal.Tail.ks3 (F := Ideal)) WK (Proc.devRef .tc KernelIdeal.main_v562) = StableHlo.after (ReferenceIdeal.Hand.tlOps3 (F := Ideal)) WR (Proc.devRef .tc ReferenceIdeal.main_v653) :=
  by
  have eK := final_unary (KernelIdeal.Tail.writes_ks3 (F := Ideal)) WK 139 (rest := (KernelIdeal.Tail.ks3 (F := Ideal)).drop 140) (wrest := KernelIdeal.Tail.wr_ks3.drop 140) (y := KernelIdeal.main_v562) (x := KernelIdeal.main_c_221) rfl rfl (by decide +kernel) (by decide +kernel)
  have eR := final_unary (ReferenceIdeal.Hand.writes_tlOps3 (F := Ideal)) WR 134 (rest := (ReferenceIdeal.Hand.tlOps3 (F := Ideal)).drop 135) (wrest := ReferenceIdeal.Hand.wr_tlOps3.drop 135) (y := ReferenceIdeal.main_v653) (x := ReferenceIdeal.main_c_240) rfl rfl (by decide +kernel) (by decide +kernel)
  rw [eK, eR, h133 WK WR hP hLin hVal]
  try rfl
theorem h135 : StableHlo.after (KernelIdeal.Tail.ks3 (F := Ideal)) WK (Proc.devRef .tc KernelIdeal.main_v563) = StableHlo.after (ReferenceIdeal.Hand.tlOps3 (F := Ideal)) WR (Proc.devRef .tc ReferenceIdeal.main_v654) :=
  by
  have eK := final_binary (KernelIdeal.Tail.writes_ks3 (F := Ideal)) WK 140 (rest := (KernelIdeal.Tail.ks3 (F := Ideal)).drop 141) (wrest := KernelIdeal.Tail.wr_ks3.drop 141) (y := KernelIdeal.main_v563) (a := KernelIdeal.main_v553) (b := KernelIdeal.main_v562) rfl rfl (by decide +kernel) (by decide +kernel) (by decide +kernel)
  have eR := final_binary (ReferenceIdeal.Hand.writes_tlOps3 (F := Ideal)) WR 135 (rest := (ReferenceIdeal.Hand.tlOps3 (F := Ideal)).drop 136) (wrest := ReferenceIdeal.Hand.wr_tlOps3.drop 136) (y := ReferenceIdeal.main_v654) (a := ReferenceIdeal.main_v644) (b := ReferenceIdeal.main_v653) rfl rfl (by decide +kernel) (by decide +kernel) (by decide +kernel)
  rw [eK, eR, h117 WK WR hP hLin hVal, h134 WK WR hP hLin hVal]
  try rfl
theorem h136 : StableHlo.after (KernelIdeal.Tail.ks3 (F := Ideal)) WK (Proc.devRef .tc KernelIdeal.main_c_222) = StableHlo.after (ReferenceIdeal.Hand.tlOps3 (F := Ideal)) WR (Proc.devRef .tc ReferenceIdeal.main_c_241) :=
  by
  have eK := final_nullary (KernelIdeal.Tail.writes_ks3 (F := Ideal)) WK 141 (rest := (KernelIdeal.Tail.ks3 (F := Ideal)).drop 142) (wrest := KernelIdeal.Tail.wr_ks3.drop 142) (y := KernelIdeal.main_c_222) rfl rfl (by decide +kernel)
  have eR := final_nullary (ReferenceIdeal.Hand.writes_tlOps3 (F := Ideal)) WR 136 (rest := (ReferenceIdeal.Hand.tlOps3 (F := Ideal)).drop 137) (wrest := ReferenceIdeal.Hand.wr_tlOps3.drop 137) (y := ReferenceIdeal.main_c_241) rfl rfl (by decide +kernel)
  rw [eK, eR]
  try rfl
theorem h137 : StableHlo.after (KernelIdeal.Tail.ks3 (F := Ideal)) WK (Proc.devRef .tc KernelIdeal.main_v564) = StableHlo.after (ReferenceIdeal.Hand.tlOps3 (F := Ideal)) WR (Proc.devRef .tc ReferenceIdeal.main_v655) :=
  by
  have eK := final_unary (KernelIdeal.Tail.writes_ks3 (F := Ideal)) WK 142 (rest := (KernelIdeal.Tail.ks3 (F := Ideal)).drop 143) (wrest := KernelIdeal.Tail.wr_ks3.drop 143) (y := KernelIdeal.main_v564) (x := KernelIdeal.main_c_222) rfl rfl (by decide +kernel) (by decide +kernel)
  have eR := final_unary (ReferenceIdeal.Hand.writes_tlOps3 (F := Ideal)) WR 137 (rest := (ReferenceIdeal.Hand.tlOps3 (F := Ideal)).drop 138) (wrest := ReferenceIdeal.Hand.wr_tlOps3.drop 138) (y := ReferenceIdeal.main_v655) (x := ReferenceIdeal.main_c_241) rfl rfl (by decide +kernel) (by decide +kernel)
  rw [eK, eR, h136 WK WR hP hLin hVal]
  try rfl
theorem h138 : StableHlo.after (KernelIdeal.Tail.ks3 (F := Ideal)) WK (Proc.devRef .tc KernelIdeal.main_v565) = StableHlo.after (ReferenceIdeal.Hand.tlOps3 (F := Ideal)) WR (Proc.devRef .tc ReferenceIdeal.main_v656) :=
  by
  have eK := final_binary (KernelIdeal.Tail.writes_ks3 (F := Ideal)) WK 143 (rest := (KernelIdeal.Tail.ks3 (F := Ideal)).drop 144) (wrest := KernelIdeal.Tail.wr_ks3.drop 144) (y := KernelIdeal.main_v565) (a := KernelIdeal.main_v553) (b := KernelIdeal.main_v564) rfl rfl (by decide +kernel) (by decide +kernel) (by decide +kernel)
  have eR := final_binary (ReferenceIdeal.Hand.writes_tlOps3 (F := Ideal)) WR 138 (rest := (ReferenceIdeal.Hand.tlOps3 (F := Ideal)).drop 139) (wrest := ReferenceIdeal.Hand.wr_tlOps3.drop 139) (y := ReferenceIdeal.main_v656) (a := ReferenceIdeal.main_v644) (b := ReferenceIdeal.main_v655) rfl rfl (by decide +kernel) (by decide +kernel) (by decide +kernel)
  rw [eK, eR, h117 WK WR hP hLin hVal, h137 WK WR hP hLin hVal]
  try rfl
theorem h139 : StableHlo.after (KernelIdeal.Tail.ks3 (F := Ideal)) WK (Proc.devRef .tc KernelIdeal.main_v566) = StableHlo.after (ReferenceIdeal.Hand.tlOps3 (F := Ideal)) WR (Proc.devRef .tc ReferenceIdeal.main_v657) :=
  by
  have eK := final_ternary (KernelIdeal.Tail.writes_ks3 (F := Ideal)) WK 144 (rest := (KernelIdeal.Tail.ks3 (F := Ideal)).drop 145) (wrest := KernelIdeal.Tail.wr_ks3.drop 145) (y := KernelIdeal.main_v566) (c := KernelIdeal.main_v563) (a := KernelIdeal.main_v565) (b := KernelIdeal.main_v553) rfl rfl (by decide +kernel) (by decide +kernel) (by decide +kernel) (by decide +kernel)
  have eR := final_ternary (ReferenceIdeal.Hand.writes_tlOps3 (F := Ideal)) WR 139 (rest := (ReferenceIdeal.Hand.tlOps3 (F := Ideal)).drop 140) (wrest := ReferenceIdeal.Hand.wr_tlOps3.drop 140) (y := ReferenceIdeal.main_v657) (c := ReferenceIdeal.main_v654) (a := ReferenceIdeal.main_v656) (b := ReferenceIdeal.main_v644) rfl rfl (by decide +kernel) (by decide +kernel) (by decide +kernel) (by decide +kernel)
  rw [eK, eR, h135 WK WR hP hLin hVal, h138 WK WR hP hLin hVal, h117 WK WR hP hLin hVal]
  try rfl
theorem h140 : StableHlo.after (KernelIdeal.Tail.ks3 (F := Ideal)) WK (Proc.devRef .tc KernelIdeal.main_v567) = StableHlo.after (ReferenceIdeal.Hand.tlOps3 (F := Ideal)) WR (Proc.devRef .tc ReferenceIdeal.main_v658) :=
  by
  have eK := final_unary (KernelIdeal.Tail.writes_ks3 (F := Ideal)) WK 145 (rest := (KernelIdeal.Tail.ks3 (F := Ideal)).drop 146) (wrest := KernelIdeal.Tail.wr_ks3.drop 146) (y := KernelIdeal.main_v567) (x := KernelIdeal.main_v561) rfl rfl (by decide +kernel) (by decide +kernel)
  have eR := final_unary (ReferenceIdeal.Hand.writes_tlOps3 (F := Ideal)) WR 140 (rest := (ReferenceIdeal.Hand.tlOps3 (F := Ideal)).drop 141) (wrest := ReferenceIdeal.Hand.wr_tlOps3.drop 141) (y := ReferenceIdeal.main_v658) (x := ReferenceIdeal.main_v652) rfl rfl (by decide +kernel) (by decide +kernel)
  rw [eK, eR, h132 WK WR hP hLin hVal]
  try rfl
theorem h141 : StableHlo.after (KernelIdeal.Tail.ks3 (F := Ideal)) WK (Proc.devRef .tc KernelIdeal.main_v568) = StableHlo.after (ReferenceIdeal.Hand.tlOps3 (F := Ideal)) WR (Proc.devRef .tc ReferenceIdeal.main_v659) :=
  by
  have eK := final_unary (KernelIdeal.Tail.writes_ks3 (F := Ideal)) WK 146 (rest := (KernelIdeal.Tail.ks3 (F := Ideal)).drop 147) (wrest := KernelIdeal.Tail.wr_ks3.drop 147) (y := KernelIdeal.main_v568) (x := KernelIdeal.main_v566) rfl rfl (by decide +kernel) (by decide +kernel)
  have eR := final_unary (ReferenceIdeal.Hand.writes_tlOps3 (F := Ideal)) WR 141 (rest := (ReferenceIdeal.Hand.tlOps3 (F := Ideal)).drop 142) (wrest := ReferenceIdeal.Hand.wr_tlOps3.drop 142) (y := ReferenceIdeal.main_v659) (x := ReferenceIdeal.main_v657) rfl rfl (by decide +kernel) (by decide +kernel)
  rw [eK, eR, h139 WK WR hP hLin hVal]
  try rfl
theorem h142 : StableHlo.after (KernelIdeal.Tail.ks3 (F := Ideal)) WK (Proc.devRef .tc KernelIdeal.main_v569) = StableHlo.after (ReferenceIdeal.Hand.tlOps3 (F := Ideal)) WR (Proc.devRef .tc ReferenceIdeal.main_v660) :=
  by
  have eK := final_binary (KernelIdeal.Tail.writes_ks3 (F := Ideal)) WK 147 (rest := (KernelIdeal.Tail.ks3 (F := Ideal)).drop 148) (wrest := KernelIdeal.Tail.wr_ks3.drop 148) (y := KernelIdeal.main_v569) (a := KernelIdeal.main_v567) (b := KernelIdeal.main_v568) rfl rfl (by decide +kernel) (by decide +kernel) (by decide +kernel)
  have eR := final_binary (ReferenceIdeal.Hand.writes_tlOps3 (F := Ideal)) WR 142 (rest := (ReferenceIdeal.Hand.tlOps3 (F := Ideal)).drop 143) (wrest := ReferenceIdeal.Hand.wr_tlOps3.drop 143) (y := ReferenceIdeal.main_v660) (a := ReferenceIdeal.main_v658) (b := ReferenceIdeal.main_v659) rfl rfl (by decide +kernel) (by decide +kernel) (by decide +kernel)
  rw [eK, eR, h140 WK WR hP hLin hVal, h141 WK WR hP hLin hVal]
  try rfl
theorem h143 : StableHlo.after (KernelIdeal.Tail.ks3 (F := Ideal)) WK (Proc.devRef .tc KernelIdeal.main_v570) = StableHlo.after (ReferenceIdeal.Hand.tlOps3 (F := Ideal)) WR (Proc.devRef .tc ReferenceIdeal.main_v661) :=
  by
  have eK := final_ternary (KernelIdeal.Tail.writes_ks3 (F := Ideal)) WK 148 (rest := (KernelIdeal.Tail.ks3 (F := Ideal)).drop 149) (wrest := KernelIdeal.Tail.wr_ks3.drop 149) (y := KernelIdeal.main_v570) (c := KernelIdeal.main_v554) (a := KernelIdeal.main_v569) (b := KernelIdeal.main_v556) rfl rfl (by decide +kernel) (by decide +kernel) (by decide +kernel) (by decide +kernel)
  have eR := final_ternary (ReferenceIdeal.Hand.writes_tlOps3 (F := Ideal)) WR 143 (rest := (ReferenceIdeal.Hand.tlOps3 (F := Ideal)).drop 144) (wrest := ReferenceIdeal.Hand.wr_tlOps3.drop 144) (y := ReferenceIdeal.main_v661) (c := ReferenceIdeal.main_v645) (a := ReferenceIdeal.main_v660) (b := ReferenceIdeal.main_v647) rfl rfl (by decide +kernel) (by decide +kernel) (by decide +kernel) (by decide +kernel)
  rw [eK, eR, h119 WK WR hP hLin hVal, h142 WK WR hP hLin hVal, h125 WK WR hP hLin hVal]
  try rfl
theorem h144 : StableHlo.after (KernelIdeal.Tail.ks3 (F := Ideal)) WK (Proc.devRef .tc KernelIdeal.main_v571) = StableHlo.after (ReferenceIdeal.Hand.tlOps3 (F := Ideal)) WR (Proc.devRef .tc ReferenceIdeal.main_v662) :=
  by
  have eK := final_unary (KernelIdeal.Tail.writes_ks3 (F := Ideal)) WK 149 (rest := (KernelIdeal.Tail.ks3 (F := Ideal)).drop 150) (wrest := KernelIdeal.Tail.wr_ks3.drop 150) (y := KernelIdeal.main_v571) (x := KernelIdeal.main_v570) rfl rfl (by decide +kernel) (by decide +kernel)
  have eR := final_unary (ReferenceIdeal.Hand.writes_tlOps3 (F := Ideal)) WR 144 (rest := (ReferenceIdeal.Hand.tlOps3 (F := Ideal)).drop 145) (wrest := ReferenceIdeal.Hand.wr_tlOps3.drop 145) (y := ReferenceIdeal.main_v662) (x := ReferenceIdeal.main_v661) rfl rfl (by decide +kernel) (by decide +kernel)
  rw [eK, eR, h143 WK WR hP hLin hVal]
  try rfl
theorem h145 : StableHlo.after (KernelIdeal.Tail.ks3 (F := Ideal)) WK (Proc.devRef .tc KernelIdeal.main_v572) = StableHlo.after (ReferenceIdeal.Hand.tlOps3 (F := Ideal)) WR (Proc.devRef .tc ReferenceIdeal.main_v663) :=
  by
  have eK := final_unary (KernelIdeal.Tail.writes_ks3 (F := Ideal)) WK 150 (rest := (KernelIdeal.Tail.ks3 (F := Ideal)).drop 151) (wrest := KernelIdeal.Tail.wr_ks3.drop 151) (y := KernelIdeal.main_v572) (x := KernelIdeal.main_v551) rfl rfl (by decide +kernel) (by decide +kernel)
  have eR := final_unary (ReferenceIdeal.Hand.writes_tlOps3 (F := Ideal)) WR 145 (rest := (ReferenceIdeal.Hand.tlOps3 (F := Ideal)).drop 146) (wrest := ReferenceIdeal.Hand.wr_tlOps3.drop 146) (y := ReferenceIdeal.main_v663) (x := ReferenceIdeal.main_v642) rfl rfl (by decide +kernel) (by decide +kernel)
  rw [eK, eR, h109 WK WR hP hLin hVal]
  try rfl
theorem h146 : StableHlo.after (KernelIdeal.Tail.ks3 (F := Ideal)) WK (Proc.devRef .tc KernelIdeal.main_c_223) = StableHlo.after (ReferenceIdeal.Hand.tlOps3 (F := Ideal)) WR (Proc.devRef .tc ReferenceIdeal.main_c_242) :=
  by
  have eK := final_nullary (KernelIdeal.Tail.writes_ks3 (F := Ideal)) WK 151 (rest := (KernelIdeal.Tail.ks3 (F := Ideal)).drop 152) (wrest := KernelIdeal.Tail.wr_ks3.drop 152) (y := KernelIdeal.main_c_223) rfl rfl (by decide +kernel)
  have eR := final_nullary (ReferenceIdeal.Hand.writes_tlOps3 (F := Ideal)) WR 146 (rest := (ReferenceIdeal.Hand.tlOps3 (F := Ideal)).drop 147) (wrest := ReferenceIdeal.Hand.wr_tlOps3.drop 147) (y := ReferenceIdeal.main_c_242) rfl rfl (by decide +kernel)
  rw [eK, eR]
  try rfl
theorem h147 : StableHlo.after (KernelIdeal.Tail.ks3 (F := Ideal)) WK (Proc.devRef .tc KernelIdeal.main_v573) = StableHlo.after (ReferenceIdeal.Hand.tlOps3 (F := Ideal)) WR (Proc.devRef .tc ReferenceIdeal.main_v664) :=
  by
  have eK := final_unary (KernelIdeal.Tail.writes_ks3 (F := Ideal)) WK 152 (rest := (KernelIdeal.Tail.ks3 (F := Ideal)).drop 153) (wrest := KernelIdeal.Tail.wr_ks3.drop 153) (y := KernelIdeal.main_v573) (x := KernelIdeal.main_c_223) rfl rfl (by decide +kernel) (by decide +kernel)
  have eR := final_unary (ReferenceIdeal.Hand.writes_tlOps3 (F := Ideal)) WR 147 (rest := (ReferenceIdeal.Hand.tlOps3 (F := Ideal)).drop 148) (wrest := ReferenceIdeal.Hand.wr_tlOps3.drop 148) (y := ReferenceIdeal.main_v664) (x := ReferenceIdeal.main_c_242) rfl rfl (by decide +kernel) (by decide +kernel)
  rw [eK, eR, h146 WK WR hP hLin hVal]
  try rfl
theorem h148 : StableHlo.after (KernelIdeal.Tail.ks3 (F := Ideal)) WK (Proc.devRef .tc KernelIdeal.main_v574) = StableHlo.after (ReferenceIdeal.Hand.tlOps3 (F := Ideal)) WR (Proc.devRef .tc ReferenceIdeal.main_v665) :=
  by
  have eK := final_unary (KernelIdeal.Tail.writes_ks3 (F := Ideal)) WK 153 (rest := (KernelIdeal.Tail.ks3 (F := Ideal)).drop 154) (wrest := KernelIdeal.Tail.wr_ks3.drop 154) (y := KernelIdeal.main_v574) (x := KernelIdeal.main_v552) rfl rfl (by decide +kernel) (by decide +kernel)
  have eR := final_unary (ReferenceIdeal.Hand.writes_tlOps3 (F := Ideal)) WR 148 (rest := (ReferenceIdeal.Hand.tlOps3 (F := Ideal)).drop 149) (wrest := ReferenceIdeal.Hand.wr_tlOps3.drop 149) (y := ReferenceIdeal.main_v665) (x := ReferenceIdeal.main_v643) rfl rfl (by decide +kernel) (by decide +kernel)
  rw [eK, eR, h113 WK WR hP hLin hVal]
  try rfl
theorem h149 : StableHlo.after (KernelIdeal.Tail.ks3 (F := Ideal)) WK (Proc.devRef .tc KernelIdeal.main_v575) = StableHlo.after (ReferenceIdeal.Hand.tlOps3 (F := Ideal)) WR (Proc.devRef .tc ReferenceIdeal.main_v666) :=
  by
  have eK := final_ternary (KernelIdeal.Tail.writes_ks3 (F := Ideal)) WK 154 (rest := (KernelIdeal.Tail.ks3 (F := Ideal)).drop 155) (wrest := KernelIdeal.Tail.wr_ks3.drop 155) (y := KernelIdeal.main_v575) (c := KernelIdeal.main_v573) (a := KernelIdeal.main_v574) (b := KernelIdeal.main_v572) rfl rfl (by decide +kernel) (by decide +kernel) (by decide +kernel) (by decide +kernel)
  have eR := final_ternary (ReferenceIdeal.Hand.writes_tlOps3 (F := Ideal)) WR 149 (rest := (ReferenceIdeal.Hand.tlOps3 (F := Ideal)).drop 150) (wrest := ReferenceIdeal.Hand.wr_tlOps3.drop 150) (y := ReferenceIdeal.main_v666) (c := ReferenceIdeal.main_v664) (a := ReferenceIdeal.main_v665) (b := ReferenceIdeal.main_v663) rfl rfl (by decide +kernel) (by decide +kernel) (by decide +kernel) (by decide +kernel)
  rw [eK, eR, h147 WK WR hP hLin hVal, h148 WK WR hP hLin hVal, h145 WK WR hP hLin hVal]
  try rfl
theorem h150 : StableHlo.after (KernelIdeal.Tail.ks3 (F := Ideal)) WK (Proc.devRef .tc KernelIdeal.main_v576) = StableHlo.after (ReferenceIdeal.Hand.tlOps3 (F := Ideal)) WR (Proc.devRef .tc ReferenceIdeal.main_v667) :=
  by
  have eK := final_unary (KernelIdeal.Tail.writes_ks3 (F := Ideal)) WK 155 (rest := (KernelIdeal.Tail.ks3 (F := Ideal)).drop 156) (wrest := KernelIdeal.Tail.wr_ks3.drop 156) (y := KernelIdeal.main_v576) (x := KernelIdeal.main_v575) rfl rfl (by decide +kernel) (by decide +kernel)
  have eR := final_unary (ReferenceIdeal.Hand.writes_tlOps3 (F := Ideal)) WR 150 (rest := (ReferenceIdeal.Hand.tlOps3 (F := Ideal)).drop 151) (wrest := ReferenceIdeal.Hand.wr_tlOps3.drop 151) (y := ReferenceIdeal.main_v667) (x := ReferenceIdeal.main_v666) rfl rfl (by decide +kernel) (by decide +kernel)
  rw [eK, eR, h149 WK WR hP hLin hVal]
  try rfl
theorem h151 : StableHlo.after (KernelIdeal.Tail.ks3 (F := Ideal)) WK (Proc.devRef .tc KernelIdeal.main_c_224) = StableHlo.after (ReferenceIdeal.Hand.tlOps3 (F := Ideal)) WR (Proc.devRef .tc ReferenceIdeal.main_c_243) :=
  by
  have eK := final_nullary (KernelIdeal.Tail.writes_ks3 (F := Ideal)) WK 156 (rest := (KernelIdeal.Tail.ks3 (F := Ideal)).drop 157) (wrest := KernelIdeal.Tail.wr_ks3.drop 157) (y := KernelIdeal.main_c_224) rfl rfl (by decide +kernel)
  have eR := final_nullary (ReferenceIdeal.Hand.writes_tlOps3 (F := Ideal)) WR 151 (rest := (ReferenceIdeal.Hand.tlOps3 (F := Ideal)).drop 152) (wrest := ReferenceIdeal.Hand.wr_tlOps3.drop 152) (y := ReferenceIdeal.main_c_243) rfl rfl (by decide +kernel)
  rw [eK, eR]
  try rfl
theorem h152 : StableHlo.after (KernelIdeal.Tail.ks3 (F := Ideal)) WK (Proc.devRef .tc KernelIdeal.main_v577) = StableHlo.after (ReferenceIdeal.Hand.tlOps3 (F := Ideal)) WR (Proc.devRef .tc ReferenceIdeal.main_v668) :=
  by
  have eK := final_unary (KernelIdeal.Tail.writes_ks3 (F := Ideal)) WK 157 (rest := (KernelIdeal.Tail.ks3 (F := Ideal)).drop 158) (wrest := KernelIdeal.Tail.wr_ks3.drop 158) (y := KernelIdeal.main_v577) (x := KernelIdeal.main_c_224) rfl rfl (by decide +kernel) (by decide +kernel)
  have eR := final_unary (ReferenceIdeal.Hand.writes_tlOps3 (F := Ideal)) WR 152 (rest := (ReferenceIdeal.Hand.tlOps3 (F := Ideal)).drop 153) (wrest := ReferenceIdeal.Hand.wr_tlOps3.drop 153) (y := ReferenceIdeal.main_v668) (x := ReferenceIdeal.main_c_243) rfl rfl (by decide +kernel) (by decide +kernel)
  rw [eK, eR, h151 WK WR hP hLin hVal]
  try rfl
theorem h153 : StableHlo.after (KernelIdeal.Tail.ks3 (F := Ideal)) WK (Proc.devRef .tc KernelIdeal.main_c_225) = StableHlo.after (ReferenceIdeal.Hand.tlOps3 (F := Ideal)) WR (Proc.devRef .tc ReferenceIdeal.main_c_244) :=
  by
  have eK := final_nullary (KernelIdeal.Tail.writes_ks3 (F := Ideal)) WK 158 (rest := (KernelIdeal.Tail.ks3 (F := Ideal)).drop 159) (wrest := KernelIdeal.Tail.wr_ks3.drop 159) (y := KernelIdeal.main_c_225) rfl rfl (by decide +kernel)
  have eR := final_nullary (ReferenceIdeal.Hand.writes_tlOps3 (F := Ideal)) WR 153 (rest := (ReferenceIdeal.Hand.tlOps3 (F := Ideal)).drop 154) (wrest := ReferenceIdeal.Hand.wr_tlOps3.drop 154) (y := ReferenceIdeal.main_c_244) rfl rfl (by decide +kernel)
  rw [eK, eR]
  try rfl
theorem h154 : StableHlo.after (KernelIdeal.Tail.ks3 (F := Ideal)) WK (Proc.devRef .tc KernelIdeal.main_v578) = StableHlo.after (ReferenceIdeal.Hand.tlOps3 (F := Ideal)) WR (Proc.devRef .tc ReferenceIdeal.main_v669) :=
  by
  have eK := final_unary (KernelIdeal.Tail.writes_ks3 (F := Ideal)) WK 159 (rest := (KernelIdeal.Tail.ks3 (F := Ideal)).drop 160) (wrest := KernelIdeal.Tail.wr_ks3.drop 160) (y := KernelIdeal.main_v578) (x := KernelIdeal.main_c_225) rfl rfl (by decide +kernel) (by decide +kernel)
  have eR := final_unary (ReferenceIdeal.Hand.writes_tlOps3 (F := Ideal)) WR 154 (rest := (ReferenceIdeal.Hand.tlOps3 (F := Ideal)).drop 155) (wrest := ReferenceIdeal.Hand.wr_tlOps3.drop 155) (y := ReferenceIdeal.main_v669) (x := ReferenceIdeal.main_c_244) rfl rfl (by decide +kernel) (by decide +kernel)
  rw [eK, eR, h153 WK WR hP hLin hVal]
  try rfl
theorem h155 : StableHlo.after (KernelIdeal.Tail.ks3 (F := Ideal)) WK (Proc.devRef .tc KernelIdeal.main_v579) = StableHlo.after (ReferenceIdeal.Hand.tlOps3 (F := Ideal)) WR (Proc.devRef .tc ReferenceIdeal.main_v670) :=
  by
  have eK := final_binary (KernelIdeal.Tail.writes_ks3 (F := Ideal)) WK 160 (rest := (KernelIdeal.Tail.ks3 (F := Ideal)).drop 161) (wrest := KernelIdeal.Tail.wr_ks3.drop 161) (y := KernelIdeal.main_v579) (a := KernelIdeal.main_v501) (b := KernelIdeal.main_v578) rfl rfl (by decide +kernel) (by decide +kernel) (by decide +kernel)
  have eR := final_binary (ReferenceIdeal.Hand.writes_tlOps3 (F := Ideal)) WR 155 (rest := (ReferenceIdeal.Hand.tlOps3 (F := Ideal)).drop 156) (wrest := ReferenceIdeal.Hand.wr_tlOps3.drop 156) (y := ReferenceIdeal.main_v670) (a := ReferenceIdeal.main_v592) (b := ReferenceIdeal.main_v669) rfl rfl (by decide +kernel) (by decide +kernel) (by decide +kernel)
  rw [eK, eR, h29 WK WR hP hLin hVal, h154 WK WR hP hLin hVal]
  try rfl
theorem h156 : StableHlo.after (KernelIdeal.Tail.ks3 (F := Ideal)) WK (Proc.devRef .tc KernelIdeal.main_v580) = StableHlo.after (ReferenceIdeal.Hand.tlOps3 (F := Ideal)) WR (Proc.devRef .tc ReferenceIdeal.main_v671) :=
  by
  have eK := final_binary (KernelIdeal.Tail.writes_ks3 (F := Ideal)) WK 161 (rest := (KernelIdeal.Tail.ks3 (F := Ideal)).drop 162) (wrest := KernelIdeal.Tail.wr_ks3.drop 162) (y := KernelIdeal.main_v580) (a := KernelIdeal.main_v497) (b := KernelIdeal.main_v579) rfl rfl (by decide +kernel) (by decide +kernel) (by decide +kernel)
  have eR := final_binary (ReferenceIdeal.Hand.writes_tlOps3 (F := Ideal)) WR 156 (rest := (ReferenceIdeal.Hand.tlOps3 (F := Ideal)).drop 157) (wrest := ReferenceIdeal.Hand.wr_tlOps3.drop 157) (y := ReferenceIdeal.main_v671) (a := ReferenceIdeal.main_v588) (b := ReferenceIdeal.main_v670) rfl rfl (by decide +kernel) (by decide +kernel) (by decide +kernel)
  rw [eK, eR, h22 WK WR hP hLin hVal, h155 WK WR hP hLin hVal]
  try rfl
theorem h157 : StableHlo.after (KernelIdeal.Tail.ks3 (F := Ideal)) WK (Proc.devRef .tc KernelIdeal.main_c_226) = StableHlo.after (ReferenceIdeal.Hand.tlOps3 (F := Ideal)) WR (Proc.devRef .tc ReferenceIdeal.main_c_245) :=
  by
  have eK := final_nullary (KernelIdeal.Tail.writes_ks3 (F := Ideal)) WK 162 (rest := (KernelIdeal.Tail.ks3 (F := Ideal)).drop 163) (wrest := KernelIdeal.Tail.wr_ks3.drop 163) (y := KernelIdeal.main_c_226) rfl rfl (by decide +kernel)
  have eR := final_nullary (ReferenceIdeal.Hand.writes_tlOps3 (F := Ideal)) WR 157 (rest := (ReferenceIdeal.Hand.tlOps3 (F := Ideal)).drop 158) (wrest := ReferenceIdeal.Hand.wr_tlOps3.drop 158) (y := ReferenceIdeal.main_c_245) rfl rfl (by decide +kernel)
  rw [eK, eR]
  try rfl
theorem h158 : StableHlo.after (KernelIdeal.Tail.ks3 (F := Ideal)) WK (Proc.devRef .tc KernelIdeal.main_call67_v0) = StableHlo.after (ReferenceIdeal.Hand.tlOps3 (F := Ideal)) WR (Proc.devRef .tc ReferenceIdeal.main_call71_v0) :=
  by
  have eK := final_unary (KernelIdeal.Tail.writes_ks3 (F := Ideal)) WK 163 (rest := (KernelIdeal.Tail.ks3 (F := Ideal)).drop 164) (wrest := KernelIdeal.Tail.wr_ks3.drop 164) (y := KernelIdeal.main_call67_v0) (x := KernelIdeal.main_c_226) rfl rfl (by decide +kernel) (by decide +kernel)
  have eR := final_unary (ReferenceIdeal.Hand.writes_tlOps3 (F := Ideal)) WR 158 (rest := (ReferenceIdeal.Hand.tlOps3 (F := Ideal)).drop 159) (wrest := ReferenceIdeal.Hand.wr_tlOps3.drop 159) (y := ReferenceIdeal.main_call71_v0) (x := ReferenceIdeal.main_c_245) rfl rfl (by decide +kernel) (by decide +kernel)
  rw [eK, eR, h157 WK WR hP hLin hVal]
  try rfl
theorem h159 : StableHlo.after (KernelIdeal.Tail.ks3 (F := Ideal)) WK (Proc.devRef .tc KernelIdeal.main_call67_v1) = StableHlo.after (ReferenceIdeal.Hand.tlOps3 (F := Ideal)) WR (Proc.devRef .tc ReferenceIdeal.main_call71_v1) :=
  by
  have eK := final_unary (KernelIdeal.Tail.writes_ks3 (F := Ideal)) WK 164 (rest := (KernelIdeal.Tail.ks3 (F := Ideal)).drop 165) (wrest := KernelIdeal.Tail.wr_ks3.drop 165) (y := KernelIdeal.main_call67_v1) (x := KernelIdeal.main_call67_v0) rfl rfl (by decide +kernel) (by decide +kernel)
  have eR := final_unary (ReferenceIdeal.Hand.writes_tlOps3 (F := Ideal)) WR 159 (rest := (ReferenceIdeal.Hand.tlOps3 (F := Ideal)).drop 160) (wrest := ReferenceIdeal.Hand.wr_tlOps3.drop 160) (y := ReferenceIdeal.main_call71_v1) (x := ReferenceIdeal.main_call71_v0) rfl rfl (by decide +kernel) (by decide +kernel)
  rw [eK, eR, h158 WK WR hP hLin hVal]
  try rfl
theorem h160 : StableHlo.after (KernelIdeal.Tail.ks3 (F := Ideal)) WK (Proc.devRef .tc KernelIdeal.main_v581) = StableHlo.after (ReferenceIdeal.Hand.tlOps3 (F := Ideal)) WR (Proc.devRef .tc ReferenceIdeal.main_v672) :=
  by
  have eK := final_ternary (KernelIdeal.Tail.writes_ks3 (F := Ideal)) WK 165 (rest := (KernelIdeal.Tail.ks3 (F := Ideal)).drop 166) (wrest := KernelIdeal.Tail.wr_ks3.drop 166) (y := KernelIdeal.main_v581) (c := KernelIdeal.main_v580) (a := KernelIdeal.main_v501) (b := KernelIdeal.main_call67_v1) rfl rfl (by decide +kernel) (by decide +kernel) (by decide +kernel) (by decide +kernel)
  have eR := final_ternary (ReferenceIdeal.Hand.writes_tlOps3 (F := Ideal)) WR 160 (rest := (ReferenceIdeal.Hand.tlOps3 (F := Ideal)).drop 161) (wrest := ReferenceIdeal.Hand.wr_tlOps3.drop 161) (y := ReferenceIdeal.main_v672) (c := ReferenceIdeal.main_v671) (a := ReferenceIdeal.main_v592) (b := ReferenceIdeal.main_call71_v1) rfl rfl (by decide +kernel) (by decide +kernel) (by decide +kernel) (by decide +kernel)
  rw [eK, eR, h156 WK WR hP hLin hVal, h29 WK WR hP hLin hVal, h159 WK WR hP hLin hVal]
  try rfl
theorem h161 : StableHlo.after (KernelIdeal.Tail.ks3 (F := Ideal)) WK (Proc.devRef .tc KernelIdeal.main_c_227) = StableHlo.after (ReferenceIdeal.Hand.tlOps3 (F := Ideal)) WR (Proc.devRef .tc ReferenceIdeal.main_c_246) :=
  by
  have eK := final_nullary (KernelIdeal.Tail.writes_ks3 (F := Ideal)) WK 166 (rest := (KernelIdeal.Tail.ks3 (F := Ideal)).drop 167) (wrest := KernelIdeal.Tail.wr_ks3.drop 167) (y := KernelIdeal.main_c_227) rfl rfl (by decide +kernel)
  have eR := final_nullary (ReferenceIdeal.Hand.writes_tlOps3 (F := Ideal)) WR 161 (rest := (ReferenceIdeal.Hand.tlOps3 (F := Ideal)).drop 162) (wrest := ReferenceIdeal.Hand.wr_tlOps3.drop 162) (y := ReferenceIdeal.main_c_246) rfl rfl (by decide +kernel)
  rw [eK, eR]
  try rfl
theorem h162 : StableHlo.after (KernelIdeal.Tail.ks3 (F := Ideal)) WK (Proc.devRef .tc KernelIdeal.main_v582) = StableHlo.after (ReferenceIdeal.Hand.tlOps3 (F := Ideal)) WR (Proc.devRef .tc ReferenceIdeal.main_v673) :=
  by
  have eK := final_unary (KernelIdeal.Tail.writes_ks3 (F := Ideal)) WK 167 (rest := (KernelIdeal.Tail.ks3 (F := Ideal)).drop 168) (wrest := KernelIdeal.Tail.wr_ks3.drop 168) (y := KernelIdeal.main_v582) (x := KernelIdeal.main_c_227) rfl rfl (by decide +kernel) (by decide +kernel)
  have eR := final_unary (ReferenceIdeal.Hand.writes_tlOps3 (F := Ideal)) WR 162 (rest := (ReferenceIdeal.Hand.tlOps3 (F := Ideal)).drop 163) (wrest := ReferenceIdeal.Hand.wr_tlOps3.drop 163) (y := ReferenceIdeal.main_v673) (x := ReferenceIdeal.main_c_246) rfl rfl (by decide +kernel) (by decide +kernel)
  rw [eK, eR, h161 WK WR hP hLin hVal]
  try rfl
theorem h163 : StableHlo.after (KernelIdeal.Tail.ks3 (F := Ideal)) WK (Proc.devRef .tc KernelIdeal.main_v583) = StableHlo.after (ReferenceIdeal.Hand.tlOps3 (F := Ideal)) WR (Proc.devRef .tc ReferenceIdeal.main_v674) :=
  by
  have eK := final_binary (KernelIdeal.Tail.writes_ks3 (F := Ideal)) WK 168 (rest := (KernelIdeal.Tail.ks3 (F := Ideal)).drop 169) (wrest := KernelIdeal.Tail.wr_ks3.drop 169) (y := KernelIdeal.main_v583) (a := KernelIdeal.main_v501) (b := KernelIdeal.main_v582) rfl rfl (by decide +kernel) (by decide +kernel) (by decide +kernel)
  have eR := final_binary (ReferenceIdeal.Hand.writes_tlOps3 (F := Ideal)) WR 163 (rest := (ReferenceIdeal.Hand.tlOps3 (F := Ideal)).drop 164) (wrest := ReferenceIdeal.Hand.wr_tlOps3.drop 164) (y := ReferenceIdeal.main_v674) (a := ReferenceIdeal.main_v592) (b := ReferenceIdeal.main_v673) rfl rfl (by decide +kernel) (by decide +kernel) (by decide +kernel)
  rw [eK, eR, h29 WK WR hP hLin hVal, h162 WK WR hP hLin hVal]
  try rfl
theorem h164 : StableHlo.after (KernelIdeal.Tail.ks3 (F := Ideal)) WK (Proc.devRef .tc KernelIdeal.main_v584) = StableHlo.after (ReferenceIdeal.Hand.tlOps3 (F := Ideal)) WR (Proc.devRef .tc ReferenceIdeal.main_v675) :=
  by
  have eK := final_binary (KernelIdeal.Tail.writes_ks3 (F := Ideal)) WK 169 (rest := (KernelIdeal.Tail.ks3 (F := Ideal)).drop 170) (wrest := KernelIdeal.Tail.wr_ks3.drop 170) (y := KernelIdeal.main_v584) (a := KernelIdeal.main_v497) (b := KernelIdeal.main_v583) rfl rfl (by decide +kernel) (by decide +kernel) (by decide +kernel)
  have eR := final_binary (ReferenceIdeal.Hand.writes_tlOps3 (F := Ideal)) WR 164 (rest := (ReferenceIdeal.Hand.tlOps3 (F := Ideal)).drop 165) (wrest := ReferenceIdeal.Hand.wr_tlOps3.drop 165) (y := ReferenceIdeal.main_v675) (a := ReferenceIdeal.main_v588) (b := ReferenceIdeal.main_v674) rfl rfl (by decide +kernel) (by decide +kernel) (by decide +kernel)
  rw [eK, eR, h22 WK WR hP hLin hVal, h163 WK WR hP hLin hVal]
  try rfl
theorem h165 : StableHlo.after (KernelIdeal.Tail.ks3 (F := Ideal)) WK (Proc.devRef .tc KernelIdeal.main_c_228) = StableHlo.after (ReferenceIdeal.Hand.tlOps3 (F := Ideal)) WR (Proc.devRef .tc ReferenceIdeal.main_c_247) :=
  by
  have eK := final_nullary (KernelIdeal.Tail.writes_ks3 (F := Ideal)) WK 170 (rest := (KernelIdeal.Tail.ks3 (F := Ideal)).drop 171) (wrest := KernelIdeal.Tail.wr_ks3.drop 171) (y := KernelIdeal.main_c_228) rfl rfl (by decide +kernel)
  have eR := final_nullary (ReferenceIdeal.Hand.writes_tlOps3 (F := Ideal)) WR 165 (rest := (ReferenceIdeal.Hand.tlOps3 (F := Ideal)).drop 166) (wrest := ReferenceIdeal.Hand.wr_tlOps3.drop 166) (y := ReferenceIdeal.main_c_247) rfl rfl (by decide +kernel)
  rw [eK, eR]
  try rfl
theorem h166 : StableHlo.after (KernelIdeal.Tail.ks3 (F := Ideal)) WK (Proc.devRef .tc KernelIdeal.main_call68_v0) = StableHlo.after (ReferenceIdeal.Hand.tlOps3 (F := Ideal)) WR (Proc.devRef .tc ReferenceIdeal.main_call72_v0) :=
  by
  have eK := final_unary (KernelIdeal.Tail.writes_ks3 (F := Ideal)) WK 171 (rest := (KernelIdeal.Tail.ks3 (F := Ideal)).drop 172) (wrest := KernelIdeal.Tail.wr_ks3.drop 172) (y := KernelIdeal.main_call68_v0) (x := KernelIdeal.main_c_228) rfl rfl (by decide +kernel) (by decide +kernel)
  have eR := final_unary (ReferenceIdeal.Hand.writes_tlOps3 (F := Ideal)) WR 166 (rest := (ReferenceIdeal.Hand.tlOps3 (F := Ideal)).drop 167) (wrest := ReferenceIdeal.Hand.wr_tlOps3.drop 167) (y := ReferenceIdeal.main_call72_v0) (x := ReferenceIdeal.main_c_247) rfl rfl (by decide +kernel) (by decide +kernel)
  rw [eK, eR, h165 WK WR hP hLin hVal]
  try rfl
theorem h167 : StableHlo.after (KernelIdeal.Tail.ks3 (F := Ideal)) WK (Proc.devRef .tc KernelIdeal.main_call68_v1) = StableHlo.after (ReferenceIdeal.Hand.tlOps3 (F := Ideal)) WR (Proc.devRef .tc ReferenceIdeal.main_call72_v1) :=
  by
  have eK := final_unary (KernelIdeal.Tail.writes_ks3 (F := Ideal)) WK 172 (rest := (KernelIdeal.Tail.ks3 (F := Ideal)).drop 173) (wrest := KernelIdeal.Tail.wr_ks3.drop 173) (y := KernelIdeal.main_call68_v1) (x := KernelIdeal.main_call68_v0) rfl rfl (by decide +kernel) (by decide +kernel)
  have eR := final_unary (ReferenceIdeal.Hand.writes_tlOps3 (F := Ideal)) WR 167 (rest := (ReferenceIdeal.Hand.tlOps3 (F := Ideal)).drop 168) (wrest := ReferenceIdeal.Hand.wr_tlOps3.drop 168) (y := ReferenceIdeal.main_call72_v1) (x := ReferenceIdeal.main_call72_v0) rfl rfl (by decide +kernel) (by decide +kernel)
  rw [eK, eR, h166 WK WR hP hLin hVal]
  try rfl
theorem h168 : StableHlo.after (KernelIdeal.Tail.ks3 (F := Ideal)) WK (Proc.devRef .tc KernelIdeal.main_v585) = StableHlo.after (ReferenceIdeal.Hand.tlOps3 (F := Ideal)) WR (Proc.devRef .tc ReferenceIdeal.main_v676) :=
  by
  have eK := final_ternary (KernelIdeal.Tail.writes_ks3 (F := Ideal)) WK 173 (rest := (KernelIdeal.Tail.ks3 (F := Ideal)).drop 174) (wrest := KernelIdeal.Tail.wr_ks3.drop 174) (y := KernelIdeal.main_v585) (c := KernelIdeal.main_v584) (a := KernelIdeal.main_v477) (b := KernelIdeal.main_call68_v1) rfl rfl (by decide +kernel) (by decide +kernel) (by decide +kernel) (by decide +kernel)
  have eR := final_ternary (ReferenceIdeal.Hand.writes_tlOps3 (F := Ideal)) WR 168 (rest := (ReferenceIdeal.Hand.tlOps3 (F := Ideal)).drop 169) (wrest := ReferenceIdeal.Hand.wr_tlOps3.drop 169) (y := ReferenceIdeal.main_v676) (c := ReferenceIdeal.main_v675) (a := ReferenceIdeal.main_v570) (b := ReferenceIdeal.main_call72_v1) rfl rfl (by decide +kernel) (by decide +kernel) (by decide +kernel) (by decide +kernel)
  rw [eK, eR, h164 WK WR hP hLin hVal, hLin, h167 WK WR hP hLin hVal]
  try rfl
theorem h169 : StableHlo.after (KernelIdeal.Tail.ks3 (F := Ideal)) WK (Proc.devRef .tc KernelIdeal.main_c_229) = StableHlo.after (ReferenceIdeal.Hand.tlOps3 (F := Ideal)) WR (Proc.devRef .tc ReferenceIdeal.main_c_248) :=
  by
  have eK := final_nullary (KernelIdeal.Tail.writes_ks3 (F := Ideal)) WK 174 (rest := (KernelIdeal.Tail.ks3 (F := Ideal)).drop 175) (wrest := KernelIdeal.Tail.wr_ks3.drop 175) (y := KernelIdeal.main_c_229) rfl rfl (by decide +kernel)
  have eR := final_nullary (ReferenceIdeal.Hand.writes_tlOps3 (F := Ideal)) WR 169 (rest := (ReferenceIdeal.Hand.tlOps3 (F := Ideal)).drop 170) (wrest := ReferenceIdeal.Hand.wr_tlOps3.drop 170) (y := ReferenceIdeal.main_c_248) rfl rfl (by decide +kernel)
  rw [eK, eR]
  try rfl
theorem h170 : StableHlo.after (KernelIdeal.Tail.ks3 (F := Ideal)) WK (Proc.devRef .tc KernelIdeal.main_v586) = StableHlo.after (ReferenceIdeal.Hand.tlOps3 (F := Ideal)) WR (Proc.devRef .tc ReferenceIdeal.main_v677) :=
  by
  have eK := final_unary (KernelIdeal.Tail.writes_ks3 (F := Ideal)) WK 175 (rest := (KernelIdeal.Tail.ks3 (F := Ideal)).drop 176) (wrest := KernelIdeal.Tail.wr_ks3.drop 176) (y := KernelIdeal.main_v586) (x := KernelIdeal.main_c_229) rfl rfl (by decide +kernel) (by decide +kernel)
  have eR := final_unary (ReferenceIdeal.Hand.writes_tlOps3 (F := Ideal)) WR 170 (rest := (ReferenceIdeal.Hand.tlOps3 (F := Ideal)).drop 171) (wrest := ReferenceIdeal.Hand.wr_tlOps3.drop 171) (y := ReferenceIdeal.main_v677) (x := ReferenceIdeal.main_c_248) rfl rfl (by decide +kernel) (by decide +kernel)
  rw [eK, eR, h169 WK WR hP hLin hVal]
  try rfl
theorem h171 : StableHlo.after (KernelIdeal.Tail.ks3 (F := Ideal)) WK (Proc.devRef .tc KernelIdeal.main_v587) = StableHlo.after (ReferenceIdeal.Hand.tlOps3 (F := Ideal)) WR (Proc.devRef .tc ReferenceIdeal.main_v678) :=
  by
  have eK := final_binary (KernelIdeal.Tail.writes_ks3 (F := Ideal)) WK 176 (rest := (KernelIdeal.Tail.ks3 (F := Ideal)).drop 177) (wrest := KernelIdeal.Tail.wr_ks3.drop 177) (y := KernelIdeal.main_v587) (a := KernelIdeal.main_v581) (b := KernelIdeal.main_v586) rfl rfl (by decide +kernel) (by decide +kernel) (by decide +kernel)
  have eR := final_binary (ReferenceIdeal.Hand.writes_tlOps3 (F := Ideal)) WR 171 (rest := (ReferenceIdeal.Hand.tlOps3 (F := Ideal)).drop 172) (wrest := ReferenceIdeal.Hand.wr_tlOps3.drop 172) (y := ReferenceIdeal.main_v678) (a := ReferenceIdeal.main_v672) (b := ReferenceIdeal.main_v677) rfl rfl (by decide +kernel) (by decide +kernel) (by decide +kernel)
  rw [eK, eR, h160 WK WR hP hLin hVal, h170 WK WR hP hLin hVal]
  try rfl
theorem h172 : StableHlo.after (KernelIdeal.Tail.ks3 (F := Ideal)) WK (Proc.devRef .tc KernelIdeal.main_c_230) = StableHlo.after (ReferenceIdeal.Hand.tlOps3 (F := Ideal)) WR (Proc.devRef .tc ReferenceIdeal.main_c_249) :=
  by
  have eK := final_nullary (KernelIdeal.Tail.writes_ks3 (F := Ideal)) WK 177 (rest := (KernelIdeal.Tail.ks3 (F := Ideal)).drop 178) (wrest := KernelIdeal.Tail.wr_ks3.drop 178) (y := KernelIdeal.main_c_230) rfl rfl (by decide +kernel)
  have eR := final_nullary (ReferenceIdeal.Hand.writes_tlOps3 (F := Ideal)) WR 172 (rest := (ReferenceIdeal.Hand.tlOps3 (F := Ideal)).drop 173) (wrest := ReferenceIdeal.Hand.wr_tlOps3.drop 173) (y := ReferenceIdeal.main_c_249) rfl rfl (by decide +kernel)
  rw [eK, eR]
  try rfl
theorem h173 : StableHlo.after (KernelIdeal.Tail.ks3 (F := Ideal)) WK (Proc.devRef .tc KernelIdeal.main_v588) = StableHlo.after (ReferenceIdeal.Hand.tlOps3 (F := Ideal)) WR (Proc.devRef .tc ReferenceIdeal.main_v679) :=
  by
  have eK := final_unary (KernelIdeal.Tail.writes_ks3 (F := Ideal)) WK 178 (rest := (KernelIdeal.Tail.ks3 (F := Ideal)).drop 179) (wrest := KernelIdeal.Tail.wr_ks3.drop 179) (y := KernelIdeal.main_v588) (x := KernelIdeal.main_c_230) rfl rfl (by decide +kernel) (by decide +kernel)
  have eR := final_unary (ReferenceIdeal.Hand.writes_tlOps3 (F := Ideal)) WR 173 (rest := (ReferenceIdeal.Hand.tlOps3 (F := Ideal)).drop 174) (wrest := ReferenceIdeal.Hand.wr_tlOps3.drop 174) (y := ReferenceIdeal.main_v679) (x := ReferenceIdeal.main_c_249) rfl rfl (by decide +kernel) (by decide +kernel)
  rw [eK, eR, h172 WK WR hP hLin hVal]
  try rfl
theorem h174 : StableHlo.after (KernelIdeal.Tail.ks3 (F := Ideal)) WK (Proc.devRef .tc KernelIdeal.main_v589) = StableHlo.after (ReferenceIdeal.Hand.tlOps3 (F := Ideal)) WR (Proc.devRef .tc ReferenceIdeal.main_v680) :=
  by
  have eK := final_binary (KernelIdeal.Tail.writes_ks3 (F := Ideal)) WK 179 (rest := (KernelIdeal.Tail.ks3 (F := Ideal)).drop 180) (wrest := KernelIdeal.Tail.wr_ks3.drop 180) (y := KernelIdeal.main_v589) (a := KernelIdeal.main_v581) (b := KernelIdeal.main_v588) rfl rfl (by decide +kernel) (by decide +kernel) (by decide +kernel)
  have eR := final_binary (ReferenceIdeal.Hand.writes_tlOps3 (F := Ideal)) WR 174 (rest := (ReferenceIdeal.Hand.tlOps3 (F := Ideal)).drop 175) (wrest := ReferenceIdeal.Hand.wr_tlOps3.drop 175) (y := ReferenceIdeal.main_v680) (a := ReferenceIdeal.main_v672) (b := ReferenceIdeal.main_v679) rfl rfl (by decide +kernel) (by decide +kernel) (by decide +kernel)
  rw [eK, eR, h160 WK WR hP hLin hVal, h173 WK WR hP hLin hVal]
  try rfl
theorem h175 : StableHlo.after (KernelIdeal.Tail.ks3 (F := Ideal)) WK (Proc.devRef .tc KernelIdeal.main_v590) = StableHlo.after (ReferenceIdeal.Hand.tlOps3 (F := Ideal)) WR (Proc.devRef .tc ReferenceIdeal.main_v681) :=
  by
  have eK := final_ternary (KernelIdeal.Tail.writes_ks3 (F := Ideal)) WK 180 (rest := (KernelIdeal.Tail.ks3 (F := Ideal)).drop 181) (wrest := KernelIdeal.Tail.wr_ks3.drop 181) (y := KernelIdeal.main_v590) (c := KernelIdeal.main_v587) (a := KernelIdeal.main_v589) (b := KernelIdeal.main_v581) rfl rfl (by decide +kernel) (by decide +kernel) (by decide +kernel) (by decide +kernel)
  have eR := final_ternary (ReferenceIdeal.Hand.writes_tlOps3 (F := Ideal)) WR 175 (rest := (ReferenceIdeal.Hand.tlOps3 (F := Ideal)).drop 176) (wrest := ReferenceIdeal.Hand.wr_tlOps3.drop 176) (y := ReferenceIdeal.main_v681) (c := ReferenceIdeal.main_v678) (a := ReferenceIdeal.main_v680) (b := ReferenceIdeal.main_v672) rfl rfl (by decide +kernel) (by decide +kernel) (by decide +kernel) (by decide +kernel)
  rw [eK, eR, h171 WK WR hP hLin hVal, h174 WK WR hP hLin hVal, h160 WK WR hP hLin hVal]
  try rfl
theorem h176 : StableHlo.after (KernelIdeal.Tail.ks3 (F := Ideal)) WK (Proc.devRef .tc KernelIdeal.main_v591) = StableHlo.after (ReferenceIdeal.Hand.tlOps3 (F := Ideal)) WR (Proc.devRef .tc ReferenceIdeal.main_v682) :=
  by
  have eK := final_unary (KernelIdeal.Tail.writes_ks3 (F := Ideal)) WK 181 (rest := (KernelIdeal.Tail.ks3 (F := Ideal)).drop 182) (wrest := KernelIdeal.Tail.wr_ks3.drop 182) (y := KernelIdeal.main_v591) (x := KernelIdeal.main_v590) rfl rfl (by decide +kernel) (by decide +kernel)
  have eR := final_unary (ReferenceIdeal.Hand.writes_tlOps3 (F := Ideal)) WR 176 (rest := (ReferenceIdeal.Hand.tlOps3 (F := Ideal)).drop 177) (wrest := ReferenceIdeal.Hand.wr_tlOps3.drop 177) (y := ReferenceIdeal.main_v682) (x := ReferenceIdeal.main_v681) rfl rfl (by decide +kernel) (by decide +kernel)
  rw [eK, eR, h175 WK WR hP hLin hVal]
  try rfl
theorem h177 : StableHlo.after (KernelIdeal.Tail.ks3 (F := Ideal)) WK (Proc.devRef .tc KernelIdeal.main_v592) = StableHlo.after (ReferenceIdeal.Hand.tlOps3 (F := Ideal)) WR (Proc.devRef .tc ReferenceIdeal.main_v683) :=
  by
  have eK := final_ternary (KernelIdeal.Tail.writes_ks3 (F := Ideal)) WK 182 (rest := (KernelIdeal.Tail.ks3 (F := Ideal)).drop 183) (wrest := KernelIdeal.Tail.wr_ks3.drop 183) (y := KernelIdeal.main_v592) (c := KernelIdeal.main_v577) (a := KernelIdeal.main_v591) (b := KernelIdeal.main_v585) rfl rfl (by decide +kernel) (by decide +kernel) (by decide +kernel) (by decide +kernel)
  have eR := final_ternary (ReferenceIdeal.Hand.writes_tlOps3 (F := Ideal)) WR 177 (rest := (ReferenceIdeal.Hand.tlOps3 (F := Ideal)).drop 178) (wrest := ReferenceIdeal.Hand.wr_tlOps3.drop 178) (y := ReferenceIdeal.main_v683) (c := ReferenceIdeal.main_v668) (a := ReferenceIdeal.main_v682) (b := ReferenceIdeal.main_v676) rfl rfl (by decide +kernel) (by decide +kernel) (by decide +kernel) (by decide +kernel)
  rw [eK, eR, h152 WK WR hP hLin hVal, h176 WK WR hP hLin hVal, h168 WK WR hP hLin hVal]
  try rfl
theorem h178 : StableHlo.after (KernelIdeal.Tail.ks3 (F := Ideal)) WK (Proc.devRef .tc KernelIdeal.main_v593) = StableHlo.after (ReferenceIdeal.Hand.tlOps3 (F := Ideal)) WR (Proc.devRef .tc ReferenceIdeal.main_v684) :=
  by
  have eK := final_unary (KernelIdeal.Tail.writes_ks3 (F := Ideal)) WK 183 (rest := (KernelIdeal.Tail.ks3 (F := Ideal)).drop 184) (wrest := KernelIdeal.Tail.wr_ks3.drop 184) (y := KernelIdeal.main_v593) (x := KernelIdeal.main_v592) rfl rfl (by decide +kernel) (by decide +kernel)
  have eR := final_unary (ReferenceIdeal.Hand.writes_tlOps3 (F := Ideal)) WR 178 (rest := (ReferenceIdeal.Hand.tlOps3 (F := Ideal)).drop 179) (wrest := ReferenceIdeal.Hand.wr_tlOps3.drop 179) (y := ReferenceIdeal.main_v684) (x := ReferenceIdeal.main_v683) rfl rfl (by decide +kernel) (by decide +kernel)
  rw [eK, eR, h177 WK WR hP hLin hVal]
  try rfl
theorem h179 : StableHlo.after (KernelIdeal.Tail.ks3 (F := Ideal)) WK (Proc.devRef .tc KernelIdeal.main_c_231) = StableHlo.after (ReferenceIdeal.Hand.tlOps3 (F := Ideal)) WR (Proc.devRef .tc ReferenceIdeal.main_c_250) :=
  by
  have eK := final_nullary (KernelIdeal.Tail.writes_ks3 (F := Ideal)) WK 184 (rest := (KernelIdeal.Tail.ks3 (F := Ideal)).drop 185) (wrest := KernelIdeal.Tail.wr_ks3.drop 185) (y := KernelIdeal.main_c_231) rfl rfl (by decide +kernel)
  have eR := final_nullary (ReferenceIdeal.Hand.writes_tlOps3 (F := Ideal)) WR 179 (rest := (ReferenceIdeal.Hand.tlOps3 (F := Ideal)).drop 180) (wrest := ReferenceIdeal.Hand.wr_tlOps3.drop 180) (y := ReferenceIdeal.main_c_250) rfl rfl (by decide +kernel)
  rw [eK, eR]
  try rfl
theorem h180 : StableHlo.after (KernelIdeal.Tail.ks3 (F := Ideal)) WK (Proc.devRef .tc KernelIdeal.main_v594) = StableHlo.after (ReferenceIdeal.Hand.tlOps3 (F := Ideal)) WR (Proc.devRef .tc ReferenceIdeal.main_v685) :=
  by
  have eK := final_unary (KernelIdeal.Tail.writes_ks3 (F := Ideal)) WK 185 (rest := (KernelIdeal.Tail.ks3 (F := Ideal)).drop 186) (wrest := KernelIdeal.Tail.wr_ks3.drop 186) (y := KernelIdeal.main_v594) (x := KernelIdeal.main_c_231) rfl rfl (by decide +kernel) (by decide +kernel)
  have eR := final_unary (ReferenceIdeal.Hand.writes_tlOps3 (F := Ideal)) WR 180 (rest := (ReferenceIdeal.Hand.tlOps3 (F := Ideal)).drop 181) (wrest := ReferenceIdeal.Hand.wr_tlOps3.drop 181) (y := ReferenceIdeal.main_v685) (x := ReferenceIdeal.main_c_250) rfl rfl (by decide +kernel) (by decide +kernel)
  rw [eK, eR, h179 WK WR hP hLin hVal]
  try rfl
theorem h181 : StableHlo.after (KernelIdeal.Tail.ks3 (F := Ideal)) WK (Proc.devRef .tc KernelIdeal.main_v595) = StableHlo.after (ReferenceIdeal.Hand.tlOps3 (F := Ideal)) WR (Proc.devRef .tc ReferenceIdeal.main_v686) :=
  by
  have eK := final_binary (KernelIdeal.Tail.writes_ks3 (F := Ideal)) WK 186 (rest := (KernelIdeal.Tail.ks3 (F := Ideal)).drop 187) (wrest := KernelIdeal.Tail.wr_ks3.drop 187) (y := KernelIdeal.main_v595) (a := KernelIdeal.main_v593) (b := KernelIdeal.main_v594) rfl rfl (by decide +kernel) (by decide +kernel) (by decide +kernel)
  have eR := final_binary (ReferenceIdeal.Hand.writes_tlOps3 (F := Ideal)) WR 181 (rest := (ReferenceIdeal.Hand.tlOps3 (F := Ideal)).drop 182) (wrest := ReferenceIdeal.Hand.wr_tlOps3.drop 182) (y := ReferenceIdeal.main_v686) (a := ReferenceIdeal.main_v684) (b := ReferenceIdeal.main_v685) rfl rfl (by decide +kernel) (by decide +kernel) (by decide +kernel)
  rw [eK, eR, h178 WK WR hP hLin hVal, h180 WK WR hP hLin hVal]
  try rfl
theorem h182 : StableHlo.after (KernelIdeal.Tail.ks3 (F := Ideal)) WK (Proc.devRef .tc KernelIdeal.main_c_232) = StableHlo.after (ReferenceIdeal.Hand.tlOps3 (F := Ideal)) WR (Proc.devRef .tc ReferenceIdeal.main_c_251) :=
  by
  have eK := final_nullary (KernelIdeal.Tail.writes_ks3 (F := Ideal)) WK 187 (rest := (KernelIdeal.Tail.ks3 (F := Ideal)).drop 188) (wrest := KernelIdeal.Tail.wr_ks3.drop 188) (y := KernelIdeal.main_c_232) rfl rfl (by decide +kernel)
  have eR := final_nullary (ReferenceIdeal.Hand.writes_tlOps3 (F := Ideal)) WR 182 (rest := (ReferenceIdeal.Hand.tlOps3 (F := Ideal)).drop 183) (wrest := ReferenceIdeal.Hand.wr_tlOps3.drop 183) (y := ReferenceIdeal.main_c_251) rfl rfl (by decide +kernel)
  rw [eK, eR]
  try rfl
theorem h183 : StableHlo.after (KernelIdeal.Tail.ks3 (F := Ideal)) WK (Proc.devRef .tc KernelIdeal.main_call69_v0) = StableHlo.after (ReferenceIdeal.Hand.tlOps3 (F := Ideal)) WR (Proc.devRef .tc ReferenceIdeal.main_call73_v0) :=
  by
  have eK := final_unary (KernelIdeal.Tail.writes_ks3 (F := Ideal)) WK 188 (rest := (KernelIdeal.Tail.ks3 (F := Ideal)).drop 189) (wrest := KernelIdeal.Tail.wr_ks3.drop 189) (y := KernelIdeal.main_call69_v0) (x := KernelIdeal.main_c_232) rfl rfl (by decide +kernel) (by decide +kernel)
  have eR := final_unary (ReferenceIdeal.Hand.writes_tlOps3 (F := Ideal)) WR 183 (rest := (ReferenceIdeal.Hand.tlOps3 (F := Ideal)).drop 184) (wrest := ReferenceIdeal.Hand.wr_tlOps3.drop 184) (y := ReferenceIdeal.main_call73_v0) (x := ReferenceIdeal.main_c_251) rfl rfl (by decide +kernel) (by decide +kernel)
  rw [eK, eR, h182 WK WR hP hLin hVal]
  try rfl
theorem h184 : StableHlo.after (KernelIdeal.Tail.ks3 (F := Ideal)) WK (Proc.devRef .tc KernelIdeal.main_call69_v1) = StableHlo.after (ReferenceIdeal.Hand.tlOps3 (F := Ideal)) WR (Proc.devRef .tc ReferenceIdeal.main_call73_v1) :=
  by
  have eK := final_unary (KernelIdeal.Tail.writes_ks3 (F := Ideal)) WK 189 (rest := (KernelIdeal.Tail.ks3 (F := Ideal)).drop 190) (wrest := KernelIdeal.Tail.wr_ks3.drop 190) (y := KernelIdeal.main_call69_v1) (x := KernelIdeal.main_call69_v0) rfl rfl (by decide +kernel) (by decide +kernel)
  have eR := final_unary (ReferenceIdeal.Hand.writes_tlOps3 (F := Ideal)) WR 184 (rest := (ReferenceIdeal.Hand.tlOps3 (F := Ideal)).drop 185) (wrest := ReferenceIdeal.Hand.wr_tlOps3.drop 185) (y := ReferenceIdeal.main_call73_v1) (x := ReferenceIdeal.main_call73_v0) rfl rfl (by decide +kernel) (by decide +kernel)
  rw [eK, eR, h183 WK WR hP hLin hVal]
  try rfl
theorem h185 : StableHlo.after (KernelIdeal.Tail.ks3 (F := Ideal)) WK (Proc.devRef .tc KernelIdeal.main_call69_v2) = StableHlo.after (ReferenceIdeal.Hand.tlOps3 (F := Ideal)) WR (Proc.devRef .tc ReferenceIdeal.main_call73_v2) :=
  by
  have eK := final_binary (KernelIdeal.Tail.writes_ks3 (F := Ideal)) WK 190 (rest := (KernelIdeal.Tail.ks3 (F := Ideal)).drop 191) (wrest := KernelIdeal.Tail.wr_ks3.drop 191) (y := KernelIdeal.main_call69_v2) (a := KernelIdeal.main_v593) (b := KernelIdeal.main_call69_v1) rfl rfl (by decide +kernel) (by decide +kernel) (by decide +kernel)
  have eR := final_binary (ReferenceIdeal.Hand.writes_tlOps3 (F := Ideal)) WR 185 (rest := (ReferenceIdeal.Hand.tlOps3 (F := Ideal)).drop 186) (wrest := ReferenceIdeal.Hand.wr_tlOps3.drop 186) (y := ReferenceIdeal.main_call73_v2) (a := ReferenceIdeal.main_v684) (b := ReferenceIdeal.main_call73_v1) rfl rfl (by decide +kernel) (by decide +kernel) (by decide +kernel)
  rw [eK, eR, h178 WK WR hP hLin hVal, h184 WK WR hP hLin hVal]
  try rfl
theorem h186 : StableHlo.after (KernelIdeal.Tail.ks3 (F := Ideal)) WK (Proc.devRef .tc KernelIdeal.main_call69_v3) = StableHlo.after (ReferenceIdeal.Hand.tlOps3 (F := Ideal)) WR (Proc.devRef .tc ReferenceIdeal.main_call73_v3) :=
  by
  have eK := final_unary (KernelIdeal.Tail.writes_ks3 (F := Ideal)) WK 191 (rest := (KernelIdeal.Tail.ks3 (F := Ideal)).drop 192) (wrest := KernelIdeal.Tail.wr_ks3.drop 192) (y := KernelIdeal.main_call69_v3) (x := KernelIdeal.main_v593) rfl rfl (by decide +kernel) (by decide +kernel)
  have eR := final_unary (ReferenceIdeal.Hand.writes_tlOps3 (F := Ideal)) WR 186 (rest := (ReferenceIdeal.Hand.tlOps3 (F := Ideal)).drop 187) (wrest := ReferenceIdeal.Hand.wr_tlOps3.drop 187) (y := ReferenceIdeal.main_call73_v3) (x := ReferenceIdeal.main_v684) rfl rfl (by decide +kernel) (by decide +kernel)
  rw [eK, eR, h178 WK WR hP hLin hVal]
  try rfl
theorem h187 : StableHlo.after (KernelIdeal.Tail.ks3 (F := Ideal)) WK (Proc.devRef .tc KernelIdeal.main_call69_v4) = StableHlo.after (ReferenceIdeal.Hand.tlOps3 (F := Ideal)) WR (Proc.devRef .tc ReferenceIdeal.main_call73_v4) :=
  by
  have eK := final_unary (KernelIdeal.Tail.writes_ks3 (F := Ideal)) WK 192 (rest := (KernelIdeal.Tail.ks3 (F := Ideal)).drop 193) (wrest := KernelIdeal.Tail.wr_ks3.drop 193) (y := KernelIdeal.main_call69_v4) (x := KernelIdeal.main_call69_v0) rfl rfl (by decide +kernel) (by decide +kernel)
  have eR := final_unary (ReferenceIdeal.Hand.writes_tlOps3 (F := Ideal)) WR 187 (rest := (ReferenceIdeal.Hand.tlOps3 (F := Ideal)).drop 188) (wrest := ReferenceIdeal.Hand.wr_tlOps3.drop 188) (y := ReferenceIdeal.main_call73_v4) (x := ReferenceIdeal.main_call73_v0) rfl rfl (by decide +kernel) (by decide +kernel)
  rw [eK, eR, h183 WK WR hP hLin hVal]
  try rfl
theorem h188 : StableHlo.after (KernelIdeal.Tail.ks3 (F := Ideal)) WK (Proc.devRef .tc KernelIdeal.main_call69_v5) = StableHlo.after (ReferenceIdeal.Hand.tlOps3 (F := Ideal)) WR (Proc.devRef .tc ReferenceIdeal.main_call73_v5) :=
  by
  have eK := final_unary (KernelIdeal.Tail.writes_ks3 (F := Ideal)) WK 193 (rest := (KernelIdeal.Tail.ks3 (F := Ideal)).drop 194) (wrest := KernelIdeal.Tail.wr_ks3.drop 194) (y := KernelIdeal.main_call69_v5) (x := KernelIdeal.main_call69_v4) rfl rfl (by decide +kernel) (by decide +kernel)
  have eR := final_unary (ReferenceIdeal.Hand.writes_tlOps3 (F := Ideal)) WR 188 (rest := (ReferenceIdeal.Hand.tlOps3 (F := Ideal)).drop 189) (wrest := ReferenceIdeal.Hand.wr_tlOps3.drop 189) (y := ReferenceIdeal.main_call73_v5) (x := ReferenceIdeal.main_call73_v4) rfl rfl (by decide +kernel) (by decide +kernel)
  rw [eK, eR, h187 WK WR hP hLin hVal]
  try rfl
theorem h189 : StableHlo.after (KernelIdeal.Tail.ks3 (F := Ideal)) WK (Proc.devRef .tc KernelIdeal.main_call69_v6) = StableHlo.after (ReferenceIdeal.Hand.tlOps3 (F := Ideal)) WR (Proc.devRef .tc ReferenceIdeal.main_call73_v6) :=
  by
  have eK := final_binary (KernelIdeal.Tail.writes_ks3 (F := Ideal)) WK 194 (rest := (KernelIdeal.Tail.ks3 (F := Ideal)).drop 195) (wrest := KernelIdeal.Tail.wr_ks3.drop 195) (y := KernelIdeal.main_call69_v6) (a := KernelIdeal.main_call69_v3) (b := KernelIdeal.main_call69_v5) rfl rfl (by decide +kernel) (by decide +kernel) (by decide +kernel)
  have eR := final_binary (ReferenceIdeal.Hand.writes_tlOps3 (F := Ideal)) WR 189 (rest := (ReferenceIdeal.Hand.tlOps3 (F := Ideal)).drop 190) (wrest := ReferenceIdeal.Hand.wr_tlOps3.drop 190) (y := ReferenceIdeal.main_call73_v6) (a := ReferenceIdeal.main_call73_v3) (b := ReferenceIdeal.main_call73_v5) rfl rfl (by decide +kernel) (by decide +kernel) (by decide +kernel)
  rw [eK, eR, h186 WK WR hP hLin hVal, h188 WK WR hP hLin hVal]
  try rfl
theorem h190 : StableHlo.after (KernelIdeal.Tail.ks3 (F := Ideal)) WK (Proc.devRef .tc KernelIdeal.main_call69_v7) = StableHlo.after (ReferenceIdeal.Hand.tlOps3 (F := Ideal)) WR (Proc.devRef .tc ReferenceIdeal.main_call73_v7) :=
  by
  have eK := final_unary (KernelIdeal.Tail.writes_ks3 (F := Ideal)) WK 195 (rest := (KernelIdeal.Tail.ks3 (F := Ideal)).drop 196) (wrest := KernelIdeal.Tail.wr_ks3.drop 196) (y := KernelIdeal.main_call69_v7) (x := KernelIdeal.main_call69_v0) rfl rfl (by decide +kernel) (by decide +kernel)
  have eR := final_unary (ReferenceIdeal.Hand.writes_tlOps3 (F := Ideal)) WR 190 (rest := (ReferenceIdeal.Hand.tlOps3 (F := Ideal)).drop 191) (wrest := ReferenceIdeal.Hand.wr_tlOps3.drop 191) (y := ReferenceIdeal.main_call73_v7) (x := ReferenceIdeal.main_call73_v0) rfl rfl (by decide +kernel) (by decide +kernel)
  rw [eK, eR, h183 WK WR hP hLin hVal]
  try rfl
theorem h191 : StableHlo.after (KernelIdeal.Tail.ks3 (F := Ideal)) WK (Proc.devRef .tc KernelIdeal.main_call69_v8) = StableHlo.after (ReferenceIdeal.Hand.tlOps3 (F := Ideal)) WR (Proc.devRef .tc ReferenceIdeal.main_call73_v8) :=
  by
  have eK := final_binary (KernelIdeal.Tail.writes_ks3 (F := Ideal)) WK 196 (rest := (KernelIdeal.Tail.ks3 (F := Ideal)).drop 197) (wrest := KernelIdeal.Tail.wr_ks3.drop 197) (y := KernelIdeal.main_call69_v8) (a := KernelIdeal.main_v593) (b := KernelIdeal.main_call69_v7) rfl rfl (by decide +kernel) (by decide +kernel) (by decide +kernel)
  have eR := final_binary (ReferenceIdeal.Hand.writes_tlOps3 (F := Ideal)) WR 191 (rest := (ReferenceIdeal.Hand.tlOps3 (F := Ideal)).drop 192) (wrest := ReferenceIdeal.Hand.wr_tlOps3.drop 192) (y := ReferenceIdeal.main_call73_v8) (a := ReferenceIdeal.main_v684) (b := ReferenceIdeal.main_call73_v7) rfl rfl (by decide +kernel) (by decide +kernel) (by decide +kernel)
  rw [eK, eR, h178 WK WR hP hLin hVal, h190 WK WR hP hLin hVal]
  try rfl
theorem h192 : StableHlo.after (KernelIdeal.Tail.ks3 (F := Ideal)) WK (Proc.devRef .tc KernelIdeal.main_call69_c) = StableHlo.after (ReferenceIdeal.Hand.tlOps3 (F := Ideal)) WR (Proc.devRef .tc ReferenceIdeal.main_call73_c) :=
  by
  have eK := final_nullary (KernelIdeal.Tail.writes_ks3 (F := Ideal)) WK 197 (rest := (KernelIdeal.Tail.ks3 (F := Ideal)).drop 198) (wrest := KernelIdeal.Tail.wr_ks3.drop 198) (y := KernelIdeal.main_call69_c) rfl rfl (by decide +kernel)
  have eR := final_nullary (ReferenceIdeal.Hand.writes_tlOps3 (F := Ideal)) WR 192 (rest := (ReferenceIdeal.Hand.tlOps3 (F := Ideal)).drop 193) (wrest := ReferenceIdeal.Hand.wr_tlOps3.drop 193) (y := ReferenceIdeal.main_call73_c) rfl rfl (by decide +kernel)
  rw [eK, eR]
  try rfl
theorem h193 : StableHlo.after (KernelIdeal.Tail.ks3 (F := Ideal)) WK (Proc.devRef .tc KernelIdeal.main_call69_v9) = StableHlo.after (ReferenceIdeal.Hand.tlOps3 (F := Ideal)) WR (Proc.devRef .tc ReferenceIdeal.main_call73_v9) :=
  by
  have eK := final_unary (KernelIdeal.Tail.writes_ks3 (F := Ideal)) WK 198 (rest := (KernelIdeal.Tail.ks3 (F := Ideal)).drop 199) (wrest := KernelIdeal.Tail.wr_ks3.drop 199) (y := KernelIdeal.main_call69_v9) (x := KernelIdeal.main_call69_c) rfl rfl (by decide +kernel) (by decide +kernel)
  have eR := final_unary (ReferenceIdeal.Hand.writes_tlOps3 (F := Ideal)) WR 193 (rest := (ReferenceIdeal.Hand.tlOps3 (F := Ideal)).drop 194) (wrest := ReferenceIdeal.Hand.wr_tlOps3.drop 194) (y := ReferenceIdeal.main_call73_v9) (x := ReferenceIdeal.main_call73_c) rfl rfl (by decide +kernel) (by decide +kernel)
  rw [eK, eR, h192 WK WR hP hLin hVal]
  try rfl
theorem h194 : StableHlo.after (KernelIdeal.Tail.ks3 (F := Ideal)) WK (Proc.devRef .tc KernelIdeal.main_call69_v10) = StableHlo.after (ReferenceIdeal.Hand.tlOps3 (F := Ideal)) WR (Proc.devRef .tc ReferenceIdeal.main_call73_v10) :=
  by
  have eK := final_binary (KernelIdeal.Tail.writes_ks3 (F := Ideal)) WK 199 (rest := (KernelIdeal.Tail.ks3 (F := Ideal)).drop 200) (wrest := KernelIdeal.Tail.wr_ks3.drop 200) (y := KernelIdeal.main_call69_v10) (a := KernelIdeal.main_call69_v8) (b := KernelIdeal.main_call69_v9) rfl rfl (by decide +kernel) (by decide +kernel) (by decide +kernel)
  have eR := final_binary (ReferenceIdeal.Hand.writes_tlOps3 (F := Ideal)) WR 194 (rest := (ReferenceIdeal.Hand.tlOps3 (F := Ideal)).drop 195) (wrest := ReferenceIdeal.Hand.wr_tlOps3.drop 195) (y := ReferenceIdeal.main_call73_v10) (a := ReferenceIdeal.main_call73_v8) (b := ReferenceIdeal.main_call73_v9) rfl rfl (by decide +kernel) (by decide +kernel) (by decide +kernel)
  rw [eK, eR, h191 WK WR hP hLin hVal, h193 WK WR hP hLin hVal]
  try rfl
theorem h195 : StableHlo.after (KernelIdeal.Tail.ks3 (F := Ideal)) WK (Proc.devRef .tc KernelIdeal.main_call69_v11) = StableHlo.after (ReferenceIdeal.Hand.tlOps3 (F := Ideal)) WR (Proc.devRef .tc ReferenceIdeal.main_call73_v11) :=
  by
  have eK := final_binary (KernelIdeal.Tail.writes_ks3 (F := Ideal)) WK 200 (rest := (KernelIdeal.Tail.ks3 (F := Ideal)).drop 201) (wrest := KernelIdeal.Tail.wr_ks3.drop 201) (y := KernelIdeal.main_call69_v11) (a := KernelIdeal.main_call69_v6) (b := KernelIdeal.main_call69_v10) rfl rfl (by decide +kernel) (by decide +kernel) (by decide +kernel)
  have eR := final_binary (ReferenceIdeal.Hand.writes_tlOps3 (F := Ideal)) WR 195 (rest := (ReferenceIdeal.Hand.tlOps3 (F := Ideal)).drop 196) (wrest := ReferenceIdeal.Hand.wr_tlOps3.drop 196) (y := ReferenceIdeal.main_call73_v11) (a := ReferenceIdeal.main_call73_v6) (b := ReferenceIdeal.main_call73_v10) rfl rfl (by decide +kernel) (by decide +kernel) (by decide +kernel)
  rw [eK, eR, h189 WK WR hP hLin hVal, h194 WK WR hP hLin hVal]
  try rfl
theorem h196 : StableHlo.after (KernelIdeal.Tail.ks3 (F := Ideal)) WK (Proc.devRef .tc KernelIdeal.main_call69_c_0) = StableHlo.after (ReferenceIdeal.Hand.tlOps3 (F := Ideal)) WR (Proc.devRef .tc ReferenceIdeal.main_call73_c_0) :=
  by
  have eK := final_nullary (KernelIdeal.Tail.writes_ks3 (F := Ideal)) WK 201 (rest := (KernelIdeal.Tail.ks3 (F := Ideal)).drop 202) (wrest := KernelIdeal.Tail.wr_ks3.drop 202) (y := KernelIdeal.main_call69_c_0) rfl rfl (by decide +kernel)
  have eR := final_nullary (ReferenceIdeal.Hand.writes_tlOps3 (F := Ideal)) WR 196 (rest := (ReferenceIdeal.Hand.tlOps3 (F := Ideal)).drop 197) (wrest := ReferenceIdeal.Hand.wr_tlOps3.drop 197) (y := ReferenceIdeal.main_call73_c_0) rfl rfl (by decide +kernel)
  rw [eK, eR]
  try rfl
theorem h197 : StableHlo.after (KernelIdeal.Tail.ks3 (F := Ideal)) WK (Proc.devRef .tc KernelIdeal.main_call69_v12) = StableHlo.after (ReferenceIdeal.Hand.tlOps3 (F := Ideal)) WR (Proc.devRef .tc ReferenceIdeal.main_call73_v12) :=
  by
  have eK := final_unary (KernelIdeal.Tail.writes_ks3 (F := Ideal)) WK 202 (rest := (KernelIdeal.Tail.ks3 (F := Ideal)).drop 203) (wrest := KernelIdeal.Tail.wr_ks3.drop 203) (y := KernelIdeal.main_call69_v12) (x := KernelIdeal.main_call69_c_0) rfl rfl (by decide +kernel) (by decide +kernel)
  have eR := final_unary (ReferenceIdeal.Hand.writes_tlOps3 (F := Ideal)) WR 197 (rest := (ReferenceIdeal.Hand.tlOps3 (F := Ideal)).drop 198) (wrest := ReferenceIdeal.Hand.wr_tlOps3.drop 198) (y := ReferenceIdeal.main_call73_v12) (x := ReferenceIdeal.main_call73_c_0) rfl rfl (by decide +kernel) (by decide +kernel)
  rw [eK, eR, h196 WK WR hP hLin hVal]
  try rfl
theorem h198 : StableHlo.after (KernelIdeal.Tail.ks3 (F := Ideal)) WK (Proc.devRef .tc KernelIdeal.main_call69_v13) = StableHlo.after (ReferenceIdeal.Hand.tlOps3 (F := Ideal)) WR (Proc.devRef .tc ReferenceIdeal.main_call73_v13) :=
  by
  have eK := final_binary (KernelIdeal.Tail.writes_ks3 (F := Ideal)) WK 203 (rest := (KernelIdeal.Tail.ks3 (F := Ideal)).drop 204) (wrest := KernelIdeal.Tail.wr_ks3.drop 204) (y := KernelIdeal.main_call69_v13) (a := KernelIdeal.main_call69_v2) (b := KernelIdeal.main_call69_v12) rfl rfl (by decide +kernel) (by decide +kernel) (by decide +kernel)
  have eR := final_binary (ReferenceIdeal.Hand.writes_tlOps3 (F := Ideal)) WR 198 (rest := (ReferenceIdeal.Hand.tlOps3 (F := Ideal)).drop 199) (wrest := ReferenceIdeal.Hand.wr_tlOps3.drop 199) (y := ReferenceIdeal.main_call73_v13) (a := ReferenceIdeal.main_call73_v2) (b := ReferenceIdeal.main_call73_v12) rfl rfl (by decide +kernel) (by decide +kernel) (by decide +kernel)
  rw [eK, eR, h185 WK WR hP hLin hVal, h197 WK WR hP hLin hVal]
  try rfl
theorem h199 : StableHlo.after (KernelIdeal.Tail.ks3 (F := Ideal)) WK (Proc.devRef .tc KernelIdeal.main_v596) = StableHlo.after (ReferenceIdeal.Hand.tlOps3 (F := Ideal)) WR (Proc.devRef .tc ReferenceIdeal.main_v687) :=
  by
  have eK := final_ternary (KernelIdeal.Tail.writes_ks3 (F := Ideal)) WK 204 (rest := (KernelIdeal.Tail.ks3 (F := Ideal)).drop 205) (wrest := KernelIdeal.Tail.wr_ks3.drop 205) (y := KernelIdeal.main_v596) (c := KernelIdeal.main_call69_v11) (a := KernelIdeal.main_call69_v13) (b := KernelIdeal.main_call69_v2) rfl rfl (by decide +kernel) (by decide +kernel) (by decide +kernel) (by decide +kernel)
  have eR := final_ternary (ReferenceIdeal.Hand.writes_tlOps3 (F := Ideal)) WR 199 (rest := (ReferenceIdeal.Hand.tlOps3 (F := Ideal)).drop 200) (wrest := ReferenceIdeal.Hand.wr_tlOps3.drop 200) (y := ReferenceIdeal.main_v687) (c := ReferenceIdeal.main_call73_v11) (a := ReferenceIdeal.main_call73_v13) (b := ReferenceIdeal.main_call73_v2) rfl rfl (by decide +kernel) (by decide +kernel) (by decide +kernel) (by decide +kernel)
  rw [eK, eR, h195 WK WR hP hLin hVal, h198 WK WR hP hLin hVal, h185 WK WR hP hLin hVal]
  try rfl
theorem h200 : StableHlo.after (KernelIdeal.Tail.ks3 (F := Ideal)) WK (Proc.devRef .tc KernelIdeal.main_c_233) = StableHlo.after (ReferenceIdeal.Hand.tlOps3 (F := Ideal)) WR (Proc.devRef .tc ReferenceIdeal.main_c_252) :=
  by
  have eK := final_nullary (KernelIdeal.Tail.writes_ks3 (F := Ideal)) WK 205 (rest := (KernelIdeal.Tail.ks3 (F := Ideal)).drop 206) (wrest := KernelIdeal.Tail.wr_ks3.drop 206) (y := KernelIdeal.main_c_233) rfl rfl (by decide +kernel)
  have eR := final_nullary (ReferenceIdeal.Hand.writes_tlOps3 (F := Ideal)) WR 200 (rest := (ReferenceIdeal.Hand.tlOps3 (F := Ideal)).drop 201) (wrest := ReferenceIdeal.Hand.wr_tlOps3.drop 201) (y := ReferenceIdeal.main_c_252) rfl rfl (by decide +kernel)
  rw [eK, eR]
  try rfl
theorem h201 : StableHlo.after (KernelIdeal.Tail.ks3 (F := Ideal)) WK (Proc.devRef .tc KernelIdeal.main_call70_v0) = StableHlo.after (ReferenceIdeal.Hand.tlOps3 (F := Ideal)) WR (Proc.devRef .tc ReferenceIdeal.main_call74_v0) :=
  by
  have eK := final_unary (KernelIdeal.Tail.writes_ks3 (F := Ideal)) WK 206 (rest := (KernelIdeal.Tail.ks3 (F := Ideal)).drop 207) (wrest := KernelIdeal.Tail.wr_ks3.drop 207) (y := KernelIdeal.main_call70_v0) (x := KernelIdeal.main_c_233) rfl rfl (by decide +kernel) (by decide +kernel)
  have eR := final_unary (ReferenceIdeal.Hand.writes_tlOps3 (F := Ideal)) WR 201 (rest := (ReferenceIdeal.Hand.tlOps3 (F := Ideal)).drop 202) (wrest := ReferenceIdeal.Hand.wr_tlOps3.drop 202) (y := ReferenceIdeal.main_call74_v0) (x := ReferenceIdeal.main_c_252) rfl rfl (by decide +kernel) (by decide +kernel)
  rw [eK, eR, h200 WK WR hP hLin hVal]
  try rfl
theorem h202 : StableHlo.after (KernelIdeal.Tail.ks3 (F := Ideal)) WK (Proc.devRef .tc KernelIdeal.main_call70_v1) = StableHlo.after (ReferenceIdeal.Hand.tlOps3 (F := Ideal)) WR (Proc.devRef .tc ReferenceIdeal.main_call74_v1) :=
  by
  have eK := final_unary (KernelIdeal.Tail.writes_ks3 (F := Ideal)) WK 207 (rest := (KernelIdeal.Tail.ks3 (F := Ideal)).drop 208) (wrest := KernelIdeal.Tail.wr_ks3.drop 208) (y := KernelIdeal.main_call70_v1) (x := KernelIdeal.main_call70_v0) rfl rfl (by decide +kernel) (by decide +kernel)
  have eR := final_unary (ReferenceIdeal.Hand.writes_tlOps3 (F := Ideal)) WR 202 (rest := (ReferenceIdeal.Hand.tlOps3 (F := Ideal)).drop 203) (wrest := ReferenceIdeal.Hand.wr_tlOps3.drop 203) (y := ReferenceIdeal.main_call74_v1) (x := ReferenceIdeal.main_call74_v0) rfl rfl (by decide +kernel) (by decide +kernel)
  rw [eK, eR, h201 WK WR hP hLin hVal]
  try rfl
theorem h203 : StableHlo.after (KernelIdeal.Tail.ks3 (F := Ideal)) WK (Proc.devRef .tc KernelIdeal.main_v597) = StableHlo.after (ReferenceIdeal.Hand.tlOps3 (F := Ideal)) WR (Proc.devRef .tc ReferenceIdeal.main_v688) :=
  by
  have eK := final_ternary (KernelIdeal.Tail.writes_ks3 (F := Ideal)) WK 208 (rest := (KernelIdeal.Tail.ks3 (F := Ideal)).drop 209) (wrest := KernelIdeal.Tail.wr_ks3.drop 209) (y := KernelIdeal.main_v597) (c := KernelIdeal.main_v595) (a := KernelIdeal.main_v596) (b := KernelIdeal.main_call70_v1) rfl rfl (by decide +kernel) (by decide +kernel) (by decide +kernel) (by decide +kernel)
  have eR := final_ternary (ReferenceIdeal.Hand.writes_tlOps3 (F := Ideal)) WR 203 (rest := (ReferenceIdeal.Hand.tlOps3 (F := Ideal)).drop 204) (wrest := ReferenceIdeal.Hand.wr_tlOps3.drop 204) (y := ReferenceIdeal.main_v688) (c := ReferenceIdeal.main_v686) (a := ReferenceIdeal.main_v687) (b := ReferenceIdeal.main_call74_v1) rfl rfl (by decide +kernel) (by decide +kernel) (by decide +kernel) (by decide +kernel)
  rw [eK, eR, h181 WK WR hP hLin hVal, h199 WK WR hP hLin hVal, h202 WK WR hP hLin hVal]
  try rfl
theorem h204 : StableHlo.after (KernelIdeal.Tail.ks3 (F := Ideal)) WK (Proc.devRef .tc KernelIdeal.main_c_234) = StableHlo.after (ReferenceIdeal.Hand.tlOps3 (F := Ideal)) WR (Proc.devRef .tc ReferenceIdeal.main_c_253) :=
  by
  have eK := final_nullary (KernelIdeal.Tail.writes_ks3 (F := Ideal)) WK 209 (rest := (KernelIdeal.Tail.ks3 (F := Ideal)).drop 210) (wrest := KernelIdeal.Tail.wr_ks3.drop 210) (y := KernelIdeal.main_c_234) rfl rfl (by decide +kernel)
  have eR := final_nullary (ReferenceIdeal.Hand.writes_tlOps3 (F := Ideal)) WR 204 (rest := (ReferenceIdeal.Hand.tlOps3 (F := Ideal)).drop 205) (wrest := ReferenceIdeal.Hand.wr_tlOps3.drop 205) (y := ReferenceIdeal.main_c_253) rfl rfl (by decide +kernel)
  rw [eK, eR]
  try rfl
theorem h205 : StableHlo.after (KernelIdeal.Tail.ks3 (F := Ideal)) WK (Proc.devRef .tc KernelIdeal.main_v598) = StableHlo.after (ReferenceIdeal.Hand.tlOps3 (F := Ideal)) WR (Proc.devRef .tc ReferenceIdeal.main_v689) :=
  by
  have eK := final_unary (KernelIdeal.Tail.writes_ks3 (F := Ideal)) WK 210 (rest := (KernelIdeal.Tail.ks3 (F := Ideal)).drop 211) (wrest := KernelIdeal.Tail.wr_ks3.drop 211) (y := KernelIdeal.main_v598) (x := KernelIdeal.main_c_234) rfl rfl (by decide +kernel) (by decide +kernel)
  have eR := final_unary (ReferenceIdeal.Hand.writes_tlOps3 (F := Ideal)) WR 205 (rest := (ReferenceIdeal.Hand.tlOps3 (F := Ideal)).drop 206) (wrest := ReferenceIdeal.Hand.wr_tlOps3.drop 206) (y := ReferenceIdeal.main_v689) (x := ReferenceIdeal.main_c_253) rfl rfl (by decide +kernel) (by decide +kernel)
  rw [eK, eR, h204 WK WR hP hLin hVal]
  try rfl
theorem h206 : StableHlo.after (KernelIdeal.Tail.ks3 (F := Ideal)) WK (Proc.devRef .tc KernelIdeal.main_v599) = StableHlo.after (ReferenceIdeal.Hand.tlOps3 (F := Ideal)) WR (Proc.devRef .tc ReferenceIdeal.main_v690) :=
  by
  have eK := final_binary (KernelIdeal.Tail.writes_ks3 (F := Ideal)) WK 211 (rest := (KernelIdeal.Tail.ks3 (F := Ideal)).drop 212) (wrest := KernelIdeal.Tail.wr_ks3.drop 212) (y := KernelIdeal.main_v599) (a := KernelIdeal.main_v593) (b := KernelIdeal.main_v598) rfl rfl (by decide +kernel) (by decide +kernel) (by decide +kernel)
  have eR := final_binary (ReferenceIdeal.Hand.writes_tlOps3 (F := Ideal)) WR 206 (rest := (ReferenceIdeal.Hand.tlOps3 (F := Ideal)).drop 207) (wrest := ReferenceIdeal.Hand.wr_tlOps3.drop 207) (y := ReferenceIdeal.main_v690) (a := ReferenceIdeal.main_v684) (b := ReferenceIdeal.main_v689) rfl rfl (by decide +kernel) (by decide +kernel) (by decide +kernel)
  rw [eK, eR, h178 WK WR hP hLin hVal, h205 WK WR hP hLin hVal]
  try rfl
theorem h207 : StableHlo.after (KernelIdeal.Tail.ks3 (F := Ideal)) WK (Proc.devRef .tc KernelIdeal.main_c_235) = StableHlo.after (ReferenceIdeal.Hand.tlOps3 (F := Ideal)) WR (Proc.devRef .tc ReferenceIdeal.main_c_254) :=
  by
  have eK := final_nullary (KernelIdeal.Tail.writes_ks3 (F := Ideal)) WK 212 (rest := (KernelIdeal.Tail.ks3 (F := Ideal)).drop 213) (wrest := KernelIdeal.Tail.wr_ks3.drop 213) (y := KernelIdeal.main_c_235) rfl rfl (by decide +kernel)
  have eR := final_nullary (ReferenceIdeal.Hand.writes_tlOps3 (F := Ideal)) WR 207 (rest := (ReferenceIdeal.Hand.tlOps3 (F := Ideal)).drop 208) (wrest := ReferenceIdeal.Hand.wr_tlOps3.drop 208) (y := ReferenceIdeal.main_c_254) rfl rfl (by decide +kernel)
  rw [eK, eR]
  try rfl
theorem h208 : StableHlo.after (KernelIdeal.Tail.ks3 (F := Ideal)) WK (Proc.devRef .tc KernelIdeal.main_call71_v0) = StableHlo.after (ReferenceIdeal.Hand.tlOps3 (F := Ideal)) WR (Proc.devRef .tc ReferenceIdeal.main_call75_v0) :=
  by
  have eK := final_unary (KernelIdeal.Tail.writes_ks3 (F := Ideal)) WK 213 (rest := (KernelIdeal.Tail.ks3 (F := Ideal)).drop 214) (wrest := KernelIdeal.Tail.wr_ks3.drop 214) (y := KernelIdeal.main_call71_v0) (x := KernelIdeal.main_c_235) rfl rfl (by decide +kernel) (by decide +kernel)
  have eR := final_unary (ReferenceIdeal.Hand.writes_tlOps3 (F := Ideal)) WR 208 (rest := (ReferenceIdeal.Hand.tlOps3 (F := Ideal)).drop 209) (wrest := ReferenceIdeal.Hand.wr_tlOps3.drop 209) (y := ReferenceIdeal.main_call75_v0) (x := ReferenceIdeal.main_c_254) rfl rfl (by decide +kernel) (by decide +kernel)
  rw [eK, eR, h207 WK WR hP hLin hVal]
  try rfl
theorem h209 : StableHlo.after (KernelIdeal.Tail.ks3 (F := Ideal)) WK (Proc.devRef .tc KernelIdeal.main_call71_v1) = StableHlo.after (ReferenceIdeal.Hand.tlOps3 (F := Ideal)) WR (Proc.devRef .tc ReferenceIdeal.main_call75_v1) :=
  by
  have eK := final_unary (KernelIdeal.Tail.writes_ks3 (F := Ideal)) WK 214 (rest := (KernelIdeal.Tail.ks3 (F := Ideal)).drop 215) (wrest := KernelIdeal.Tail.wr_ks3.drop 215) (y := KernelIdeal.main_call71_v1) (x := KernelIdeal.main_call71_v0) rfl rfl (by decide +kernel) (by decide +kernel)
  have eR := final_unary (ReferenceIdeal.Hand.writes_tlOps3 (F := Ideal)) WR 209 (rest := (ReferenceIdeal.Hand.tlOps3 (F := Ideal)).drop 210) (wrest := ReferenceIdeal.Hand.wr_tlOps3.drop 210) (y := ReferenceIdeal.main_call75_v1) (x := ReferenceIdeal.main_call75_v0) rfl rfl (by decide +kernel) (by decide +kernel)
  rw [eK, eR, h208 WK WR hP hLin hVal]
  try rfl
theorem h210 : StableHlo.after (KernelIdeal.Tail.ks3 (F := Ideal)) WK (Proc.devRef .tc KernelIdeal.main_call71_v2) = StableHlo.after (ReferenceIdeal.Hand.tlOps3 (F := Ideal)) WR (Proc.devRef .tc ReferenceIdeal.main_call75_v2) :=
  by
  have eK := final_binary (KernelIdeal.Tail.writes_ks3 (F := Ideal)) WK 215 (rest := (KernelIdeal.Tail.ks3 (F := Ideal)).drop 216) (wrest := KernelIdeal.Tail.wr_ks3.drop 216) (y := KernelIdeal.main_call71_v2) (a := KernelIdeal.main_v593) (b := KernelIdeal.main_call71_v1) rfl rfl (by decide +kernel) (by decide +kernel) (by decide +kernel)
  have eR := final_binary (ReferenceIdeal.Hand.writes_tlOps3 (F := Ideal)) WR 210 (rest := (ReferenceIdeal.Hand.tlOps3 (F := Ideal)).drop 211) (wrest := ReferenceIdeal.Hand.wr_tlOps3.drop 211) (y := ReferenceIdeal.main_call75_v2) (a := ReferenceIdeal.main_v684) (b := ReferenceIdeal.main_call75_v1) rfl rfl (by decide +kernel) (by decide +kernel) (by decide +kernel)
  rw [eK, eR, h178 WK WR hP hLin hVal, h209 WK WR hP hLin hVal]
  try rfl
theorem h211 : StableHlo.after (KernelIdeal.Tail.ks3 (F := Ideal)) WK (Proc.devRef .tc KernelIdeal.main_call71_v3) = StableHlo.after (ReferenceIdeal.Hand.tlOps3 (F := Ideal)) WR (Proc.devRef .tc ReferenceIdeal.main_call75_v3) :=
  by
  have eK := final_unary (KernelIdeal.Tail.writes_ks3 (F := Ideal)) WK 216 (rest := (KernelIdeal.Tail.ks3 (F := Ideal)).drop 217) (wrest := KernelIdeal.Tail.wr_ks3.drop 217) (y := KernelIdeal.main_call71_v3) (x := KernelIdeal.main_v593) rfl rfl (by decide +kernel) (by decide +kernel)
  have eR := final_unary (ReferenceIdeal.Hand.writes_tlOps3 (F := Ideal)) WR 211 (rest := (ReferenceIdeal.Hand.tlOps3 (F := Ideal)).drop 212) (wrest := ReferenceIdeal.Hand.wr_tlOps3.drop 212) (y := ReferenceIdeal.main_call75_v3) (x := ReferenceIdeal.main_v684) rfl rfl (by decide +kernel) (by decide +kernel)
  rw [eK, eR, h178 WK WR hP hLin hVal]
  try rfl
theorem h212 : StableHlo.after (KernelIdeal.Tail.ks3 (F := Ideal)) WK (Proc.devRef .tc KernelIdeal.main_call71_v4) = StableHlo.after (ReferenceIdeal.Hand.tlOps3 (F := Ideal)) WR (Proc.devRef .tc ReferenceIdeal.main_call75_v4) :=
  by
  have eK := final_unary (KernelIdeal.Tail.writes_ks3 (F := Ideal)) WK 217 (rest := (KernelIdeal.Tail.ks3 (F := Ideal)).drop 218) (wrest := KernelIdeal.Tail.wr_ks3.drop 218) (y := KernelIdeal.main_call71_v4) (x := KernelIdeal.main_call71_v0) rfl rfl (by decide +kernel) (by decide +kernel)
  have eR := final_unary (ReferenceIdeal.Hand.writes_tlOps3 (F := Ideal)) WR 212 (rest := (ReferenceIdeal.Hand.tlOps3 (F := Ideal)).drop 213) (wrest := ReferenceIdeal.Hand.wr_tlOps3.drop 213) (y := ReferenceIdeal.main_call75_v4) (x := ReferenceIdeal.main_call75_v0) rfl rfl (by decide +kernel) (by decide +kernel)
  rw [eK, eR, h208 WK WR hP hLin hVal]
  try rfl
theorem h213 : StableHlo.after (KernelIdeal.Tail.ks3 (F := Ideal)) WK (Proc.devRef .tc KernelIdeal.main_call71_v5) = StableHlo.after (ReferenceIdeal.Hand.tlOps3 (F := Ideal)) WR (Proc.devRef .tc ReferenceIdeal.main_call75_v5) :=
  by
  have eK := final_unary (KernelIdeal.Tail.writes_ks3 (F := Ideal)) WK 218 (rest := (KernelIdeal.Tail.ks3 (F := Ideal)).drop 219) (wrest := KernelIdeal.Tail.wr_ks3.drop 219) (y := KernelIdeal.main_call71_v5) (x := KernelIdeal.main_call71_v4) rfl rfl (by decide +kernel) (by decide +kernel)
  have eR := final_unary (ReferenceIdeal.Hand.writes_tlOps3 (F := Ideal)) WR 213 (rest := (ReferenceIdeal.Hand.tlOps3 (F := Ideal)).drop 214) (wrest := ReferenceIdeal.Hand.wr_tlOps3.drop 214) (y := ReferenceIdeal.main_call75_v5) (x := ReferenceIdeal.main_call75_v4) rfl rfl (by decide +kernel) (by decide +kernel)
  rw [eK, eR, h212 WK WR hP hLin hVal]
  try rfl
theorem h214 : StableHlo.after (KernelIdeal.Tail.ks3 (F := Ideal)) WK (Proc.devRef .tc KernelIdeal.main_call71_v6) = StableHlo.after (ReferenceIdeal.Hand.tlOps3 (F := Ideal)) WR (Proc.devRef .tc ReferenceIdeal.main_call75_v6) :=
  by
  have eK := final_binary (KernelIdeal.Tail.writes_ks3 (F := Ideal)) WK 219 (rest := (KernelIdeal.Tail.ks3 (F := Ideal)).drop 220) (wrest := KernelIdeal.Tail.wr_ks3.drop 220) (y := KernelIdeal.main_call71_v6) (a := KernelIdeal.main_call71_v3) (b := KernelIdeal.main_call71_v5) rfl rfl (by decide +kernel) (by decide +kernel) (by decide +kernel)
  have eR := final_binary (ReferenceIdeal.Hand.writes_tlOps3 (F := Ideal)) WR 214 (rest := (ReferenceIdeal.Hand.tlOps3 (F := Ideal)).drop 215) (wrest := ReferenceIdeal.Hand.wr_tlOps3.drop 215) (y := ReferenceIdeal.main_call75_v6) (a := ReferenceIdeal.main_call75_v3) (b := ReferenceIdeal.main_call75_v5) rfl rfl (by decide +kernel) (by decide +kernel) (by decide +kernel)
  rw [eK, eR, h211 WK WR hP hLin hVal, h213 WK WR hP hLin hVal]
  try rfl
theorem h215 : StableHlo.after (KernelIdeal.Tail.ks3 (F := Ideal)) WK (Proc.devRef .tc KernelIdeal.main_call71_v7) = StableHlo.after (ReferenceIdeal.Hand.tlOps3 (F := Ideal)) WR (Proc.devRef .tc ReferenceIdeal.main_call75_v7) :=
  by
  have eK := final_unary (KernelIdeal.Tail.writes_ks3 (F := Ideal)) WK 220 (rest := (KernelIdeal.Tail.ks3 (F := Ideal)).drop 221) (wrest := KernelIdeal.Tail.wr_ks3.drop 221) (y := KernelIdeal.main_call71_v7) (x := KernelIdeal.main_call71_v0) rfl rfl (by decide +kernel) (by decide +kernel)
  have eR := final_unary (ReferenceIdeal.Hand.writes_tlOps3 (F := Ideal)) WR 215 (rest := (ReferenceIdeal.Hand.tlOps3 (F := Ideal)).drop 216) (wrest := ReferenceIdeal.Hand.wr_tlOps3.drop 216) (y := ReferenceIdeal.main_call75_v7) (x := ReferenceIdeal.main_call75_v0) rfl rfl (by decide +kernel) (by decide +kernel)
  rw [eK, eR, h208 WK WR hP hLin hVal]
  try rfl
theorem h216 : StableHlo.after (KernelIdeal.Tail.ks3 (F := Ideal)) WK (Proc.devRef .tc KernelIdeal.main_call71_v8) = StableHlo.after (ReferenceIdeal.Hand.tlOps3 (F := Ideal)) WR (Proc.devRef .tc ReferenceIdeal.main_call75_v8) :=
  by
  have eK := final_binary (KernelIdeal.Tail.writes_ks3 (F := Ideal)) WK 221 (rest := (KernelIdeal.Tail.ks3 (F := Ideal)).drop 222) (wrest := KernelIdeal.Tail.wr_ks3.drop 222) (y := KernelIdeal.main_call71_v8) (a := KernelIdeal.main_v593) (b := KernelIdeal.main_call71_v7) rfl rfl (by decide +kernel) (by decide +kernel) (by decide +kernel)
  have eR := final_binary (ReferenceIdeal.Hand.writes_tlOps3 (F := Ideal)) WR 216 (rest := (ReferenceIdeal.Hand.tlOps3 (F := Ideal)).drop 217) (wrest := ReferenceIdeal.Hand.wr_tlOps3.drop 217) (y := ReferenceIdeal.main_call75_v8) (a := ReferenceIdeal.main_v684) (b := ReferenceIdeal.main_call75_v7) rfl rfl (by decide +kernel) (by decide +kernel) (by decide +kernel)
  rw [eK, eR, h178 WK WR hP hLin hVal, h215 WK WR hP hLin hVal]
  try rfl
theorem h217 : StableHlo.after (KernelIdeal.Tail.ks3 (F := Ideal)) WK (Proc.devRef .tc KernelIdeal.main_call71_c) = StableHlo.after (ReferenceIdeal.Hand.tlOps3 (F := Ideal)) WR (Proc.devRef .tc ReferenceIdeal.main_call75_c) :=
  by
  have eK := final_nullary (KernelIdeal.Tail.writes_ks3 (F := Ideal)) WK 222 (rest := (KernelIdeal.Tail.ks3 (F := Ideal)).drop 223) (wrest := KernelIdeal.Tail.wr_ks3.drop 223) (y := KernelIdeal.main_call71_c) rfl rfl (by decide +kernel)
  have eR := final_nullary (ReferenceIdeal.Hand.writes_tlOps3 (F := Ideal)) WR 217 (rest := (ReferenceIdeal.Hand.tlOps3 (F := Ideal)).drop 218) (wrest := ReferenceIdeal.Hand.wr_tlOps3.drop 218) (y := ReferenceIdeal.main_call75_c) rfl rfl (by decide +kernel)
  rw [eK, eR]
  try rfl
theorem h218 : StableHlo.after (KernelIdeal.Tail.ks3 (F := Ideal)) WK (Proc.devRef .tc KernelIdeal.main_call71_v9) = StableHlo.after (ReferenceIdeal.Hand.tlOps3 (F := Ideal)) WR (Proc.devRef .tc ReferenceIdeal.main_call75_v9) :=
  by
  have eK := final_unary (KernelIdeal.Tail.writes_ks3 (F := Ideal)) WK 223 (rest := (KernelIdeal.Tail.ks3 (F := Ideal)).drop 224) (wrest := KernelIdeal.Tail.wr_ks3.drop 224) (y := KernelIdeal.main_call71_v9) (x := KernelIdeal.main_call71_c) rfl rfl (by decide +kernel) (by decide +kernel)
  have eR := final_unary (ReferenceIdeal.Hand.writes_tlOps3 (F := Ideal)) WR 218 (rest := (ReferenceIdeal.Hand.tlOps3 (F := Ideal)).drop 219) (wrest := ReferenceIdeal.Hand.wr_tlOps3.drop 219) (y := ReferenceIdeal.main_call75_v9) (x := ReferenceIdeal.main_call75_c) rfl rfl (by decide +kernel) (by decide +kernel)
  rw [eK, eR, h217 WK WR hP hLin hVal]
  try rfl
theorem h219 : StableHlo.after (KernelIdeal.Tail.ks3 (F := Ideal)) WK (Proc.devRef .tc KernelIdeal.main_call71_v10) = StableHlo.after (ReferenceIdeal.Hand.tlOps3 (F := Ideal)) WR (Proc.devRef .tc ReferenceIdeal.main_call75_v10) :=
  by
  have eK := final_binary (KernelIdeal.Tail.writes_ks3 (F := Ideal)) WK 224 (rest := (KernelIdeal.Tail.ks3 (F := Ideal)).drop 225) (wrest := KernelIdeal.Tail.wr_ks3.drop 225) (y := KernelIdeal.main_call71_v10) (a := KernelIdeal.main_call71_v8) (b := KernelIdeal.main_call71_v9) rfl rfl (by decide +kernel) (by decide +kernel) (by decide +kernel)
  have eR := final_binary (ReferenceIdeal.Hand.writes_tlOps3 (F := Ideal)) WR 219 (rest := (ReferenceIdeal.Hand.tlOps3 (F := Ideal)).drop 220) (wrest := ReferenceIdeal.Hand.wr_tlOps3.drop 220) (y := ReferenceIdeal.main_call75_v10) (a := ReferenceIdeal.main_call75_v8) (b := ReferenceIdeal.main_call75_v9) rfl rfl (by decide +kernel) (by decide +kernel) (by decide +kernel)
  rw [eK, eR, h216 WK WR hP hLin hVal, h218 WK WR hP hLin hVal]
  try rfl
theorem h220 : StableHlo.after (KernelIdeal.Tail.ks3 (F := Ideal)) WK (Proc.devRef .tc KernelIdeal.main_call71_v11) = StableHlo.after (ReferenceIdeal.Hand.tlOps3 (F := Ideal)) WR (Proc.devRef .tc ReferenceIdeal.main_call75_v11) :=
  by
  have eK := final_binary (KernelIdeal.Tail.writes_ks3 (F := Ideal)) WK 225 (rest := (KernelIdeal.Tail.ks3 (F := Ideal)).drop 226) (wrest := KernelIdeal.Tail.wr_ks3.drop 226) (y := KernelIdeal.main_call71_v11) (a := KernelIdeal.main_call71_v6) (b := KernelIdeal.main_call71_v10) rfl rfl (by decide +kernel) (by decide +kernel) (by decide +kernel)
  have eR := final_binary (ReferenceIdeal.Hand.writes_tlOps3 (F := Ideal)) WR 220 (rest := (ReferenceIdeal.Hand.tlOps3 (F := Ideal)).drop 221) (wrest := ReferenceIdeal.Hand.wr_tlOps3.drop 221) (y := ReferenceIdeal.main_call75_v11) (a := ReferenceIdeal.main_call75_v6) (b := ReferenceIdeal.main_call75_v10) rfl rfl (by decide +kernel) (by decide +kernel) (by decide +kernel)
  rw [eK, eR, h214 WK WR hP hLin hVal, h219 WK WR hP hLin hVal]
  try rfl
theorem h221 : StableHlo.after (KernelIdeal.Tail.ks3 (F := Ideal)) WK (Proc.devRef .tc KernelIdeal.main_call71_c_0) = StableHlo.after (ReferenceIdeal.Hand.tlOps3 (F := Ideal)) WR (Proc.devRef .tc ReferenceIdeal.main_call75_c_0) :=
  by
  have eK := final_nullary (KernelIdeal.Tail.writes_ks3 (F := Ideal)) WK 226 (rest := (KernelIdeal.Tail.ks3 (F := Ideal)).drop 227) (wrest := KernelIdeal.Tail.wr_ks3.drop 227) (y := KernelIdeal.main_call71_c_0) rfl rfl (by decide +kernel)
  have eR := final_nullary (ReferenceIdeal.Hand.writes_tlOps3 (F := Ideal)) WR 221 (rest := (ReferenceIdeal.Hand.tlOps3 (F := Ideal)).drop 222) (wrest := ReferenceIdeal.Hand.wr_tlOps3.drop 222) (y := ReferenceIdeal.main_call75_c_0) rfl rfl (by decide +kernel)
  rw [eK, eR]
  try rfl
theorem h222 : StableHlo.after (KernelIdeal.Tail.ks3 (F := Ideal)) WK (Proc.devRef .tc KernelIdeal.main_call71_v12) = StableHlo.after (ReferenceIdeal.Hand.tlOps3 (F := Ideal)) WR (Proc.devRef .tc ReferenceIdeal.main_call75_v12) :=
  by
  have eK := final_unary (KernelIdeal.Tail.writes_ks3 (F := Ideal)) WK 227 (rest := (KernelIdeal.Tail.ks3 (F := Ideal)).drop 228) (wrest := KernelIdeal.Tail.wr_ks3.drop 228) (y := KernelIdeal.main_call71_v12) (x := KernelIdeal.main_call71_c_0) rfl rfl (by decide +kernel) (by decide +kernel)
  have eR := final_unary (ReferenceIdeal.Hand.writes_tlOps3 (F := Ideal)) WR 222 (rest := (ReferenceIdeal.Hand.tlOps3 (F := Ideal)).drop 223) (wrest := ReferenceIdeal.Hand.wr_tlOps3.drop 223) (y := ReferenceIdeal.main_call75_v12) (x := ReferenceIdeal.main_call75_c_0) rfl rfl (by decide +kernel) (by decide +kernel)
  rw [eK, eR, h221 WK WR hP hLin hVal]
  try rfl
theorem h223 : StableHlo.after (KernelIdeal.Tail.ks3 (F := Ideal)) WK (Proc.devRef .tc KernelIdeal.main_call71_v13) = StableHlo.after (ReferenceIdeal.Hand.tlOps3 (F := Ideal)) WR (Proc.devRef .tc ReferenceIdeal.main_call75_v13) :=
  by
  have eK := final_binary (KernelIdeal.Tail.writes_ks3 (F := Ideal)) WK 228 (rest := (KernelIdeal.Tail.ks3 (F := Ideal)).drop 229) (wrest := KernelIdeal.Tail.wr_ks3.drop 229) (y := KernelIdeal.main_call71_v13) (a := KernelIdeal.main_call71_v2) (b := KernelIdeal.main_call71_v12) rfl rfl (by decide +kernel) (by decide +kernel) (by decide +kernel)
  have eR := final_binary (ReferenceIdeal.Hand.writes_tlOps3 (F := Ideal)) WR 223 (rest := (ReferenceIdeal.Hand.tlOps3 (F := Ideal)).drop 224) (wrest := ReferenceIdeal.Hand.wr_tlOps3.drop 224) (y := ReferenceIdeal.main_call75_v13) (a := ReferenceIdeal.main_call75_v2) (b := ReferenceIdeal.main_call75_v12) rfl rfl (by decide +kernel) (by decide +kernel) (by decide +kernel)
  rw [eK, eR, h210 WK WR hP hLin hVal, h222 WK WR hP hLin hVal]
  try rfl
theorem h224 : StableHlo.after (KernelIdeal.Tail.ks3 (F := Ideal)) WK (Proc.devRef .tc KernelIdeal.main_v600) = StableHlo.after (ReferenceIdeal.Hand.tlOps3 (F := Ideal)) WR (Proc.devRef .tc ReferenceIdeal.main_v691) :=
  by
  have eK := final_ternary (KernelIdeal.Tail.writes_ks3 (F := Ideal)) WK 229 (rest := (KernelIdeal.Tail.ks3 (F := Ideal)).drop 230) (wrest := KernelIdeal.Tail.wr_ks3.drop 230) (y := KernelIdeal.main_v600) (c := KernelIdeal.main_call71_v11) (a := KernelIdeal.main_call71_v13) (b := KernelIdeal.main_call71_v2) rfl rfl (by decide +kernel) (by decide +kernel) (by decide +kernel) (by decide +kernel)
  have eR := final_ternary (ReferenceIdeal.Hand.writes_tlOps3 (F := Ideal)) WR 224 (rest := (ReferenceIdeal.Hand.tlOps3 (F := Ideal)).drop 225) (wrest := ReferenceIdeal.Hand.wr_tlOps3.drop 225) (y := ReferenceIdeal.main_v691) (c := ReferenceIdeal.main_call75_v11) (a := ReferenceIdeal.main_call75_v13) (b := ReferenceIdeal.main_call75_v2) rfl rfl (by decide +kernel) (by decide +kernel) (by decide +kernel) (by decide +kernel)
  rw [eK, eR, h220 WK WR hP hLin hVal, h223 WK WR hP hLin hVal, h210 WK WR hP hLin hVal]
  try rfl
theorem h225 : StableHlo.after (KernelIdeal.Tail.ks3 (F := Ideal)) WK (Proc.devRef .tc KernelIdeal.main_c_236) = StableHlo.after (ReferenceIdeal.Hand.tlOps3 (F := Ideal)) WR (Proc.devRef .tc ReferenceIdeal.main_c_255) :=
  by
  have eK := final_nullary (KernelIdeal.Tail.writes_ks3 (F := Ideal)) WK 230 (rest := (KernelIdeal.Tail.ks3 (F := Ideal)).drop 231) (wrest := KernelIdeal.Tail.wr_ks3.drop 231) (y := KernelIdeal.main_c_236) rfl rfl (by decide +kernel)
  have eR := final_nullary (ReferenceIdeal.Hand.writes_tlOps3 (F := Ideal)) WR 225 (rest := (ReferenceIdeal.Hand.tlOps3 (F := Ideal)).drop 226) (wrest := ReferenceIdeal.Hand.wr_tlOps3.drop 226) (y := ReferenceIdeal.main_c_255) rfl rfl (by decide +kernel)
  rw [eK, eR]
  try rfl
theorem h226 : StableHlo.after (KernelIdeal.Tail.ks3 (F := Ideal)) WK (Proc.devRef .tc KernelIdeal.main_call72_v0) = StableHlo.after (ReferenceIdeal.Hand.tlOps3 (F := Ideal)) WR (Proc.devRef .tc ReferenceIdeal.main_call76_v0) :=
  by
  have eK := final_unary (KernelIdeal.Tail.writes_ks3 (F := Ideal)) WK 231 (rest := (KernelIdeal.Tail.ks3 (F := Ideal)).drop 232) (wrest := KernelIdeal.Tail.wr_ks3.drop 232) (y := KernelIdeal.main_call72_v0) (x := KernelIdeal.main_c_236) rfl rfl (by decide +kernel) (by decide +kernel)
  have eR := final_unary (ReferenceIdeal.Hand.writes_tlOps3 (F := Ideal)) WR 226 (rest := (ReferenceIdeal.Hand.tlOps3 (F := Ideal)).drop 227) (wrest := ReferenceIdeal.Hand.wr_tlOps3.drop 227) (y := ReferenceIdeal.main_call76_v0) (x := ReferenceIdeal.main_c_255) rfl rfl (by decide +kernel) (by decide +kernel)
  rw [eK, eR, h225 WK WR hP hLin hVal]
  try rfl
theorem h227 : StableHlo.after (KernelIdeal.Tail.ks3 (F := Ideal)) WK (Proc.devRef .tc KernelIdeal.main_call72_c) = StableHlo.after (ReferenceIdeal.Hand.tlOps3 (F := Ideal)) WR (Proc.devRef .tc ReferenceIdeal.main_call76_c) :=
  by
  have eK := final_nullary (KernelIdeal.Tail.writes_ks3 (F := Ideal)) WK 232 (rest := (KernelIdeal.Tail.ks3 (F := Ideal)).drop 233) (wrest := KernelIdeal.Tail.wr_ks3.drop 233) (y := KernelIdeal.main_call72_c) rfl rfl (by decide +kernel)
  have eR := final_nullary (ReferenceIdeal.Hand.writes_tlOps3 (F := Ideal)) WR 227 (rest := (ReferenceIdeal.Hand.tlOps3 (F := Ideal)).drop 228) (wrest := ReferenceIdeal.Hand.wr_tlOps3.drop 228) (y := ReferenceIdeal.main_call76_c) rfl rfl (by decide +kernel)
  rw [eK, eR]
  try rfl
theorem h228 : StableHlo.after (KernelIdeal.Tail.ks3 (F := Ideal)) WK (Proc.devRef .tc KernelIdeal.main_call72_v1) = StableHlo.after (ReferenceIdeal.Hand.tlOps3 (F := Ideal)) WR (Proc.devRef .tc ReferenceIdeal.main_call76_v1) :=
  by
  have eK := final_binary (KernelIdeal.Tail.writes_ks3 (F := Ideal)) WK 233 (rest := (KernelIdeal.Tail.ks3 (F := Ideal)).drop 234) (wrest := KernelIdeal.Tail.wr_ks3.drop 234) (y := KernelIdeal.main_call72_v1) (a := KernelIdeal.main_call72_v0) (b := KernelIdeal.main_call72_c) rfl rfl (by decide +kernel) (by decide +kernel) (by decide +kernel)
  have eR := final_binary (ReferenceIdeal.Hand.writes_tlOps3 (F := Ideal)) WR 228 (rest := (ReferenceIdeal.Hand.tlOps3 (F := Ideal)).drop 229) (wrest := ReferenceIdeal.Hand.wr_tlOps3.drop 229) (y := ReferenceIdeal.main_call76_v1) (a := ReferenceIdeal.main_call76_v0) (b := ReferenceIdeal.main_call76_c) rfl rfl (by decide +kernel) (by decide +kernel) (by decide +kernel)
  rw [eK, eR, h226 WK WR hP hLin hVal, h227 WK WR hP hLin hVal]
  try rfl
theorem h229 : StableHlo.after (KernelIdeal.Tail.ks3 (F := Ideal)) WK (Proc.devRef .tc KernelIdeal.main_call72_c_0) = StableHlo.after (ReferenceIdeal.Hand.tlOps3 (F := Ideal)) WR (Proc.devRef .tc ReferenceIdeal.main_call76_c_0) :=
  by
  have eK := final_nullary (KernelIdeal.Tail.writes_ks3 (F := Ideal)) WK 234 (rest := (KernelIdeal.Tail.ks3 (F := Ideal)).drop 235) (wrest := KernelIdeal.Tail.wr_ks3.drop 235) (y := KernelIdeal.main_call72_c_0) rfl rfl (by decide +kernel)
  have eR := final_nullary (ReferenceIdeal.Hand.writes_tlOps3 (F := Ideal)) WR 229 (rest := (ReferenceIdeal.Hand.tlOps3 (F := Ideal)).drop 230) (wrest := ReferenceIdeal.Hand.wr_tlOps3.drop 230) (y := ReferenceIdeal.main_call76_c_0) rfl rfl (by decide +kernel)
  rw [eK, eR]
  try rfl
theorem h230 : StableHlo.after (KernelIdeal.Tail.ks3 (F := Ideal)) WK (Proc.devRef .tc KernelIdeal.main_call72_v2) = StableHlo.after (ReferenceIdeal.Hand.tlOps3 (F := Ideal)) WR (Proc.devRef .tc ReferenceIdeal.main_call76_v2) :=
  by
  have eK := final_ternary (KernelIdeal.Tail.writes_ks3 (F := Ideal)) WK 235 (rest := (KernelIdeal.Tail.ks3 (F := Ideal)).drop 236) (wrest := KernelIdeal.Tail.wr_ks3.drop 236) (y := KernelIdeal.main_call72_v2) (c := KernelIdeal.main_call72_v1) (a := KernelIdeal.main_call72_c_0) (b := KernelIdeal.main_call72_v0) rfl rfl (by decide +kernel) (by decide +kernel) (by decide +kernel) (by decide +kernel)
  have eR := final_ternary (ReferenceIdeal.Hand.writes_tlOps3 (F := Ideal)) WR 230 (rest := (ReferenceIdeal.Hand.tlOps3 (F := Ideal)).drop 231) (wrest := ReferenceIdeal.Hand.wr_tlOps3.drop 231) (y := ReferenceIdeal.main_call76_v2) (c := ReferenceIdeal.main_call76_v1) (a := ReferenceIdeal.main_call76_c_0) (b := ReferenceIdeal.main_call76_v0) rfl rfl (by decide +kernel) (by decide +kernel) (by decide +kernel) (by decide +kernel)
  rw [eK, eR, h228 WK WR hP hLin hVal, h229 WK WR hP hLin hVal, h226 WK WR hP hLin hVal]
  try rfl
theorem h231 : StableHlo.after (KernelIdeal.Tail.ks3 (F := Ideal)) WK (Proc.devRef .tc KernelIdeal.main_call72_v3) = StableHlo.after (ReferenceIdeal.Hand.tlOps3 (F := Ideal)) WR (Proc.devRef .tc ReferenceIdeal.main_call76_v3) :=
  by
  have eK := final_unary (KernelIdeal.Tail.writes_ks3 (F := Ideal)) WK 236 (rest := (KernelIdeal.Tail.ks3 (F := Ideal)).drop 237) (wrest := KernelIdeal.Tail.wr_ks3.drop 237) (y := KernelIdeal.main_call72_v3) (x := KernelIdeal.main_call72_call0.v0.ref) rfl rfl (by decide +kernel) (by decide +kernel)
  have eR := final_unary (ReferenceIdeal.Hand.writes_tlOps3 (F := Ideal)) WR 231 (rest := (ReferenceIdeal.Hand.tlOps3 (F := Ideal)).drop 232) (wrest := ReferenceIdeal.Hand.wr_tlOps3.drop 232) (y := ReferenceIdeal.main_call76_v3) (x := ReferenceIdeal.main_call76_v2) rfl rfl (by decide +kernel) (by decide +kernel)
  rw [eK, eR, h230 WK WR hP hLin hVal]
  try rfl
theorem h232 : StableHlo.after (KernelIdeal.Tail.ks3 (F := Ideal)) WK (Proc.devRef .tc KernelIdeal.main_call72_v4) = StableHlo.after (ReferenceIdeal.Hand.tlOps3 (F := Ideal)) WR (Proc.devRef .tc ReferenceIdeal.main_call76_v4) :=
  by
  have eK := final_binary (KernelIdeal.Tail.writes_ks3 (F := Ideal)) WK 237 (rest := (KernelIdeal.Tail.ks3 (F := Ideal)).drop 238) (wrest := KernelIdeal.Tail.wr_ks3.drop 238) (y := KernelIdeal.main_call72_v4) (a := KernelIdeal.main_v600) (b := KernelIdeal.main_call72_v3) rfl rfl (by decide +kernel) (by decide +kernel) (by decide +kernel)
  have eR := final_binary (ReferenceIdeal.Hand.writes_tlOps3 (F := Ideal)) WR 232 (rest := (ReferenceIdeal.Hand.tlOps3 (F := Ideal)).drop 233) (wrest := ReferenceIdeal.Hand.wr_tlOps3.drop 233) (y := ReferenceIdeal.main_call76_v4) (a := ReferenceIdeal.main_v691) (b := ReferenceIdeal.main_call76_v3) rfl rfl (by decide +kernel) (by decide +kernel) (by decide +kernel)
  rw [eK, eR, h224 WK WR hP hLin hVal, h231 WK WR hP hLin hVal]
  try rfl
theorem h233 : StableHlo.after (KernelIdeal.Tail.ks3 (F := Ideal)) WK (Proc.devRef .tc KernelIdeal.main_call72_c_1) = StableHlo.after (ReferenceIdeal.Hand.tlOps3 (F := Ideal)) WR (Proc.devRef .tc ReferenceIdeal.main_call76_c_1) :=
  by
  have eK := final_nullary (KernelIdeal.Tail.writes_ks3 (F := Ideal)) WK 238 (rest := (KernelIdeal.Tail.ks3 (F := Ideal)).drop 239) (wrest := KernelIdeal.Tail.wr_ks3.drop 239) (y := KernelIdeal.main_call72_c_1) rfl rfl (by decide +kernel)
  have eR := final_nullary (ReferenceIdeal.Hand.writes_tlOps3 (F := Ideal)) WR 233 (rest := (ReferenceIdeal.Hand.tlOps3 (F := Ideal)).drop 234) (wrest := ReferenceIdeal.Hand.wr_tlOps3.drop 234) (y := ReferenceIdeal.main_call76_c_1) rfl rfl (by decide +kernel)
  rw [eK, eR]
  try rfl
theorem h234 : StableHlo.after (KernelIdeal.Tail.ks3 (F := Ideal)) WK (Proc.devRef .tc KernelIdeal.main_call72_v5) = StableHlo.after (ReferenceIdeal.Hand.tlOps3 (F := Ideal)) WR (Proc.devRef .tc ReferenceIdeal.main_call76_v5) :=
  by
  have eK := final_unary (KernelIdeal.Tail.writes_ks3 (F := Ideal)) WK 239 (rest := (KernelIdeal.Tail.ks3 (F := Ideal)).drop 240) (wrest := KernelIdeal.Tail.wr_ks3.drop 240) (y := KernelIdeal.main_call72_v5) (x := KernelIdeal.main_call72_c_1) rfl rfl (by decide +kernel) (by decide +kernel)
  have eR := final_unary (ReferenceIdeal.Hand.writes_tlOps3 (F := Ideal)) WR 234 (rest := (ReferenceIdeal.Hand.tlOps3 (F := Ideal)).drop 235) (wrest := ReferenceIdeal.Hand.wr_tlOps3.drop 235) (y := ReferenceIdeal.main_call76_v5) (x := ReferenceIdeal.main_call76_c_1) rfl rfl (by decide +kernel) (by decide +kernel)
  rw [eK, eR, h233 WK WR hP hLin hVal]
  try rfl
theorem h235 : StableHlo.after (KernelIdeal.Tail.ks3 (F := Ideal)) WK (Proc.devRef .tc KernelIdeal.main_call72_v6) = StableHlo.after (ReferenceIdeal.Hand.tlOps3 (F := Ideal)) WR (Proc.devRef .tc ReferenceIdeal.main_call76_v6) :=
  by
  have eK := final_binary (KernelIdeal.Tail.writes_ks3 (F := Ideal)) WK 240 (rest := (KernelIdeal.Tail.ks3 (F := Ideal)).drop 241) (wrest := KernelIdeal.Tail.wr_ks3.drop 241) (y := KernelIdeal.main_call72_v6) (a := KernelIdeal.main_call72_v4) (b := KernelIdeal.main_call72_v5) rfl rfl (by decide +kernel) (by decide +kernel) (by decide +kernel)
  have eR := final_binary (ReferenceIdeal.Hand.writes_tlOps3 (F := Ideal)) WR 235 (rest := (ReferenceIdeal.Hand.tlOps3 (F := Ideal)).drop 236) (wrest := ReferenceIdeal.Hand.wr_tlOps3.drop 236) (y := ReferenceIdeal.main_call76_v6) (a := ReferenceIdeal.main_call76_v4) (b := ReferenceIdeal.main_call76_v5) rfl rfl (by decide +kernel) (by decide +kernel) (by decide +kernel)
  rw [eK, eR, h232 WK WR hP hLin hVal, h234 WK WR hP hLin hVal]
  try rfl
theorem h236 : StableHlo.after (KernelIdeal.Tail.ks3 (F := Ideal)) WK (Proc.devRef .tc KernelIdeal.main_call72_c_2) = StableHlo.after (ReferenceIdeal.Hand.tlOps3 (F := Ideal)) WR (Proc.devRef .tc ReferenceIdeal.main_call76_c_2) :=
  by
  have eK := final_nullary (KernelIdeal.Tail.writes_ks3 (F := Ideal)) WK 241 (rest := (KernelIdeal.Tail.ks3 (F := Ideal)).drop 242) (wrest := KernelIdeal.Tail.wr_ks3.drop 242) (y := KernelIdeal.main_call72_c_2) rfl rfl (by decide +kernel)
  have eR := final_nullary (ReferenceIdeal.Hand.writes_tlOps3 (F := Ideal)) WR 236 (rest := (ReferenceIdeal.Hand.tlOps3 (F := Ideal)).drop 237) (wrest := ReferenceIdeal.Hand.wr_tlOps3.drop 237) (y := ReferenceIdeal.main_call76_c_2) rfl rfl (by decide +kernel)
  rw [eK, eR]
  try rfl
theorem h237 : StableHlo.after (KernelIdeal.Tail.ks3 (F := Ideal)) WK (Proc.devRef .tc KernelIdeal.main_call72_v7) = StableHlo.after (ReferenceIdeal.Hand.tlOps3 (F := Ideal)) WR (Proc.devRef .tc ReferenceIdeal.main_call76_v7) :=
  by
  have eK := final_unary (KernelIdeal.Tail.writes_ks3 (F := Ideal)) WK 242 (rest := (KernelIdeal.Tail.ks3 (F := Ideal)).drop 243) (wrest := KernelIdeal.Tail.wr_ks3.drop 243) (y := KernelIdeal.main_call72_v7) (x := KernelIdeal.main_call72_c_2) rfl rfl (by decide +kernel) (by decide +kernel)
  have eR := final_unary (ReferenceIdeal.Hand.writes_tlOps3 (F := Ideal)) WR 237 (rest := (ReferenceIdeal.Hand.tlOps3 (F := Ideal)).drop 238) (wrest := ReferenceIdeal.Hand.wr_tlOps3.drop 238) (y := ReferenceIdeal.main_call76_v7) (x := ReferenceIdeal.main_call76_c_2) rfl rfl (by decide +kernel) (by decide +kernel)
  rw [eK, eR, h236 WK WR hP hLin hVal]
  try rfl
theorem h238 : StableHlo.after (KernelIdeal.Tail.ks3 (F := Ideal)) WK (Proc.devRef .tc KernelIdeal.main_call72_v8) = StableHlo.after (ReferenceIdeal.Hand.tlOps3 (F := Ideal)) WR (Proc.devRef .tc ReferenceIdeal.main_call76_v8) :=
  by
  have eK := final_binary (KernelIdeal.Tail.writes_ks3 (F := Ideal)) WK 243 (rest := (KernelIdeal.Tail.ks3 (F := Ideal)).drop 244) (wrest := KernelIdeal.Tail.wr_ks3.drop 244) (y := KernelIdeal.main_call72_v8) (a := KernelIdeal.main_call72_v4) (b := KernelIdeal.main_call72_v7) rfl rfl (by decide +kernel) (by decide +kernel) (by decide +kernel)
  have eR := final_binary (ReferenceIdeal.Hand.writes_tlOps3 (F := Ideal)) WR 238 (rest := (ReferenceIdeal.Hand.tlOps3 (F := Ideal)).drop 239) (wrest := ReferenceIdeal.Hand.wr_tlOps3.drop 239) (y := ReferenceIdeal.main_call76_v8) (a := ReferenceIdeal.main_call76_v4) (b := ReferenceIdeal.main_call76_v7) rfl rfl (by decide +kernel) (by decide +kernel) (by decide +kernel)
  rw [eK, eR, h232 WK WR hP hLin hVal, h237 WK WR hP hLin hVal]
  try rfl
theorem h239 : StableHlo.after (KernelIdeal.Tail.ks3 (F := Ideal)) WK (Proc.devRef .tc KernelIdeal.main_call72_c_3) = StableHlo.after (ReferenceIdeal.Hand.tlOps3 (F := Ideal)) WR (Proc.devRef .tc ReferenceIdeal.main_call76_c_3) :=
  by
  have eK := final_nullary (KernelIdeal.Tail.writes_ks3 (F := Ideal)) WK 244 (rest := (KernelIdeal.Tail.ks3 (F := Ideal)).drop 245) (wrest := KernelIdeal.Tail.wr_ks3.drop 245) (y := KernelIdeal.main_call72_c_3) rfl rfl (by decide +kernel)
  have eR := final_nullary (ReferenceIdeal.Hand.writes_tlOps3 (F := Ideal)) WR 239 (rest := (ReferenceIdeal.Hand.tlOps3 (F := Ideal)).drop 240) (wrest := ReferenceIdeal.Hand.wr_tlOps3.drop 240) (y := ReferenceIdeal.main_call76_c_3) rfl rfl (by decide +kernel)
  rw [eK, eR]
  try rfl
theorem h240 : StableHlo.after (KernelIdeal.Tail.ks3 (F := Ideal)) WK (Proc.devRef .tc KernelIdeal.main_call72_v9) = StableHlo.after (ReferenceIdeal.Hand.tlOps3 (F := Ideal)) WR (Proc.devRef .tc ReferenceIdeal.main_call76_v9) :=
  by
  have eK := final_binary (KernelIdeal.Tail.writes_ks3 (F := Ideal)) WK 245 (rest := (KernelIdeal.Tail.ks3 (F := Ideal)).drop 246) (wrest := KernelIdeal.Tail.wr_ks3.drop 246) (y := KernelIdeal.main_call72_v9) (a := KernelIdeal.main_call72_call0.v0.ref) (b := KernelIdeal.main_call72_c_3) rfl rfl (by decide +kernel) (by decide +kernel) (by decide +kernel)
  have eR := final_binary (ReferenceIdeal.Hand.writes_tlOps3 (F := Ideal)) WR 240 (rest := (ReferenceIdeal.Hand.tlOps3 (F := Ideal)).drop 241) (wrest := ReferenceIdeal.Hand.wr_tlOps3.drop 241) (y := ReferenceIdeal.main_call76_v9) (a := ReferenceIdeal.main_call76_v2) (b := ReferenceIdeal.main_call76_c_3) rfl rfl (by decide +kernel) (by decide +kernel) (by decide +kernel)
  rw [eK, eR, h230 WK WR hP hLin hVal, h239 WK WR hP hLin hVal]
  try rfl
theorem h241 : StableHlo.after (KernelIdeal.Tail.ks3 (F := Ideal)) WK (Proc.devRef .tc KernelIdeal.main_call72_v10) = StableHlo.after (ReferenceIdeal.Hand.tlOps3 (F := Ideal)) WR (Proc.devRef .tc ReferenceIdeal.main_call76_v10) :=
  by
  have eK := final_unary (KernelIdeal.Tail.writes_ks3 (F := Ideal)) WK 246 (rest := (KernelIdeal.Tail.ks3 (F := Ideal)).drop 247) (wrest := KernelIdeal.Tail.wr_ks3.drop 247) (y := KernelIdeal.main_call72_v10) (x := KernelIdeal.main_call72_v9) rfl rfl (by decide +kernel) (by decide +kernel)
  have eR := final_unary (ReferenceIdeal.Hand.writes_tlOps3 (F := Ideal)) WR 241 (rest := (ReferenceIdeal.Hand.tlOps3 (F := Ideal)).drop 242) (wrest := ReferenceIdeal.Hand.wr_tlOps3.drop 242) (y := ReferenceIdeal.main_call76_v10) (x := ReferenceIdeal.main_call76_v9) rfl rfl (by decide +kernel) (by decide +kernel)
  rw [eK, eR, h240 WK WR hP hLin hVal]
  try rfl
theorem h242 : StableHlo.after (KernelIdeal.Tail.ks3 (F := Ideal)) WK (Proc.devRef .tc KernelIdeal.main_call72_v11) = StableHlo.after (ReferenceIdeal.Hand.tlOps3 (F := Ideal)) WR (Proc.devRef .tc ReferenceIdeal.main_call76_v11) :=
  by
  have eK := final_binary (KernelIdeal.Tail.writes_ks3 (F := Ideal)) WK 247 (rest := (KernelIdeal.Tail.ks3 (F := Ideal)).drop 248) (wrest := KernelIdeal.Tail.wr_ks3.drop 248) (y := KernelIdeal.main_call72_v11) (a := KernelIdeal.main_call72_v8) (b := KernelIdeal.main_call72_v10) rfl rfl (by decide +kernel) (by decide +kernel) (by decide +kernel)
  have eR := final_binary (ReferenceIdeal.Hand.writes_tlOps3 (F := Ideal)) WR 242 (rest := (ReferenceIdeal.Hand.tlOps3 (F := Ideal)).drop 243) (wrest := ReferenceIdeal.Hand.wr_tlOps3.drop 243) (y := ReferenceIdeal.main_call76_v11) (a := ReferenceIdeal.main_call76_v8) (b := ReferenceIdeal.main_call76_v10) rfl rfl (by decide +kernel) (by decide +kernel) (by decide +kernel)
  rw [eK, eR, h238 WK WR hP hLin hVal, h241 WK WR hP hLin hVal]
  try rfl
theorem h243 : StableHlo.after (KernelIdeal.Tail.ks3 (F := Ideal)) WK (Proc.devRef .tc KernelIdeal.main_call72_v12) = StableHlo.after (ReferenceIdeal.Hand.tlOps3 (F := Ideal)) WR (Proc.devRef .tc ReferenceIdeal.main_call76_v12) :=
  by
  have eK := final_binary (KernelIdeal.Tail.writes_ks3 (F := Ideal)) WK 248 (rest := (KernelIdeal.Tail.ks3 (F := Ideal)).drop 249) (wrest := KernelIdeal.Tail.wr_ks3.drop 249) (y := KernelIdeal.main_call72_v12) (a := KernelIdeal.main_call72_v11) (b := KernelIdeal.main_call72_v6) rfl rfl (by decide +kernel) (by decide +kernel) (by decide +kernel)
  have eR := final_binary (ReferenceIdeal.Hand.writes_tlOps3 (F := Ideal)) WR 243 (rest := (ReferenceIdeal.Hand.tlOps3 (F := Ideal)).drop 244) (wrest := ReferenceIdeal.Hand.wr_tlOps3.drop 244) (y := ReferenceIdeal.main_call76_v12) (a := ReferenceIdeal.main_call76_v11) (b := ReferenceIdeal.main_call76_v6) rfl rfl (by decide +kernel) (by decide +kernel) (by decide +kernel)
  rw [eK, eR, h242 WK WR hP hLin hVal, h235 WK WR hP hLin hVal]
  try rfl
theorem h244 : StableHlo.after (KernelIdeal.Tail.ks3 (F := Ideal)) WK (Proc.devRef .tc KernelIdeal.main_call72_v13) = StableHlo.after (ReferenceIdeal.Hand.tlOps3 (F := Ideal)) WR (Proc.devRef .tc ReferenceIdeal.main_call76_v13) :=
  by
  have eK := final_unary (KernelIdeal.Tail.writes_ks3 (F := Ideal)) WK 249 (rest := (KernelIdeal.Tail.ks3 (F := Ideal)).drop 250) (wrest := KernelIdeal.Tail.wr_ks3.drop 250) (y := KernelIdeal.main_call72_v13) (x := KernelIdeal.main_call72_call0.v0.ref) rfl rfl (by decide +kernel) (by decide +kernel)
  have eR := final_unary (ReferenceIdeal.Hand.writes_tlOps3 (F := Ideal)) WR 244 (rest := (ReferenceIdeal.Hand.tlOps3 (F := Ideal)).drop 245) (wrest := ReferenceIdeal.Hand.wr_tlOps3.drop 245) (y := ReferenceIdeal.main_call76_v13) (x := ReferenceIdeal.main_call76_v2) rfl rfl (by decide +kernel) (by decide +kernel)
  rw [eK, eR, h230 WK WR hP hLin hVal]
  try rfl
theorem h245 : StableHlo.after (KernelIdeal.Tail.ks3 (F := Ideal)) WK (Proc.devRef .tc KernelIdeal.main_call72_v14) = StableHlo.after (ReferenceIdeal.Hand.tlOps3 (F := Ideal)) WR (Proc.devRef .tc ReferenceIdeal.main_call76_v14) :=
  by
  have eK := final_binary (KernelIdeal.Tail.writes_ks3 (F := Ideal)) WK 250 (rest := (KernelIdeal.Tail.ks3 (F := Ideal)).drop 251) (wrest := KernelIdeal.Tail.wr_ks3.drop 251) (y := KernelIdeal.main_call72_v14) (a := KernelIdeal.main_call72_v4) (b := KernelIdeal.main_call72_v13) rfl rfl (by decide +kernel) (by decide +kernel) (by decide +kernel)
  have eR := final_binary (ReferenceIdeal.Hand.writes_tlOps3 (F := Ideal)) WR 245 (rest := (ReferenceIdeal.Hand.tlOps3 (F := Ideal)).drop 246) (wrest := ReferenceIdeal.Hand.wr_tlOps3.drop 246) (y := ReferenceIdeal.main_call76_v14) (a := ReferenceIdeal.main_call76_v4) (b := ReferenceIdeal.main_call76_v13) rfl rfl (by decide +kernel) (by decide +kernel) (by decide +kernel)
  rw [eK, eR, h232 WK WR hP hLin hVal, h244 WK WR hP hLin hVal]
  try rfl
theorem h246 : StableHlo.after (KernelIdeal.Tail.ks3 (F := Ideal)) WK (Proc.devRef .tc KernelIdeal.main_v601) = StableHlo.after (ReferenceIdeal.Hand.tlOps3 (F := Ideal)) WR (Proc.devRef .tc ReferenceIdeal.main_v692) :=
  by
  have eK := final_ternary (KernelIdeal.Tail.writes_ks3 (F := Ideal)) WK 251 (rest := (KernelIdeal.Tail.ks3 (F := Ideal)).drop 252) (wrest := KernelIdeal.Tail.wr_ks3.drop 252) (y := KernelIdeal.main_v601) (c := KernelIdeal.main_call72_v12) (a := KernelIdeal.main_call72_v14) (b := KernelIdeal.main_call72_v4) rfl rfl (by decide +kernel) (by decide +kernel) (by decide +kernel) (by decide +kernel)
  have eR := final_ternary (ReferenceIdeal.Hand.writes_tlOps3 (F := Ideal)) WR 246 (rest := (ReferenceIdeal.Hand.tlOps3 (F := Ideal)).drop 247) (wrest := ReferenceIdeal.Hand.wr_tlOps3.drop 247) (y := ReferenceIdeal.main_v692) (c := ReferenceIdeal.main_call76_v12) (a := ReferenceIdeal.main_call76_v14) (b := ReferenceIdeal.main_call76_v4) rfl rfl (by decide +kernel) (by decide +kernel) (by decide +kernel) (by decide +kernel)
  rw [eK, eR, h243 WK WR hP hLin hVal, h245 WK WR hP hLin hVal, h232 WK WR hP hLin hVal]
  try rfl
theorem h247 : StableHlo.after (KernelIdeal.Tail.ks3 (F := Ideal)) WK (Proc.devRef .tc KernelIdeal.main_c_237) = StableHlo.after (ReferenceIdeal.Hand.tlOps3 (F := Ideal)) WR (Proc.devRef .tc ReferenceIdeal.main_c_256) :=
  by
  have eK := final_nullary (KernelIdeal.Tail.writes_ks3 (F := Ideal)) WK 252 (rest := (KernelIdeal.Tail.ks3 (F := Ideal)).drop 253) (wrest := KernelIdeal.Tail.wr_ks3.drop 253) (y := KernelIdeal.main_c_237) rfl rfl (by decide +kernel)
  have eR := final_nullary (ReferenceIdeal.Hand.writes_tlOps3 (F := Ideal)) WR 247 (rest := (ReferenceIdeal.Hand.tlOps3 (F := Ideal)).drop 248) (wrest := ReferenceIdeal.Hand.wr_tlOps3.drop 248) (y := ReferenceIdeal.main_c_256) rfl rfl (by decide +kernel)
  rw [eK, eR]
  try rfl
theorem h248 : StableHlo.after (KernelIdeal.Tail.ks3 (F := Ideal)) WK (Proc.devRef .tc KernelIdeal.main_call73_v0) = StableHlo.after (ReferenceIdeal.Hand.tlOps3 (F := Ideal)) WR (Proc.devRef .tc ReferenceIdeal.main_call77_v0) :=
  by
  have eK := final_unary (KernelIdeal.Tail.writes_ks3 (F := Ideal)) WK 253 (rest := (KernelIdeal.Tail.ks3 (F := Ideal)).drop 254) (wrest := KernelIdeal.Tail.wr_ks3.drop 254) (y := KernelIdeal.main_call73_v0) (x := KernelIdeal.main_c_237) rfl rfl (by decide +kernel) (by decide +kernel)
  have eR := final_unary (ReferenceIdeal.Hand.writes_tlOps3 (F := Ideal)) WR 248 (rest := (ReferenceIdeal.Hand.tlOps3 (F := Ideal)).drop 249) (wrest := ReferenceIdeal.Hand.wr_tlOps3.drop 249) (y := ReferenceIdeal.main_call77_v0) (x := ReferenceIdeal.main_c_256) rfl rfl (by decide +kernel) (by decide +kernel)
  rw [eK, eR, h247 WK WR hP hLin hVal]
  try rfl
theorem h249 : StableHlo.after (KernelIdeal.Tail.ks3 (F := Ideal)) WK (Proc.devRef .tc KernelIdeal.main_call73_v1) = StableHlo.after (ReferenceIdeal.Hand.tlOps3 (F := Ideal)) WR (Proc.devRef .tc ReferenceIdeal.main_call77_v1) :=
  by
  have eK := final_unary (KernelIdeal.Tail.writes_ks3 (F := Ideal)) WK 254 (rest := (KernelIdeal.Tail.ks3 (F := Ideal)).drop 255) (wrest := KernelIdeal.Tail.wr_ks3.drop 255) (y := KernelIdeal.main_call73_v1) (x := KernelIdeal.main_call73_v0) rfl rfl (by decide +kernel) (by decide +kernel)
  have eR := final_unary (ReferenceIdeal.Hand.writes_tlOps3 (F := Ideal)) WR 249 (rest := (ReferenceIdeal.Hand.tlOps3 (F := Ideal)).drop 250) (wrest := ReferenceIdeal.Hand.wr_tlOps3.drop 250) (y := ReferenceIdeal.main_call77_v1) (x := ReferenceIdeal.main_call77_v0) rfl rfl (by decide +kernel) (by decide +kernel)
  rw [eK, eR, h248 WK WR hP hLin hVal]
  try rfl
theorem h250 : StableHlo.after (KernelIdeal.Tail.ks3 (F := Ideal)) WK (Proc.devRef .tc KernelIdeal.main_v602) = StableHlo.after (ReferenceIdeal.Hand.tlOps3 (F := Ideal)) WR (Proc.devRef .tc ReferenceIdeal.main_v693) :=
  by
  have eK := final_ternary (KernelIdeal.Tail.writes_ks3 (F := Ideal)) WK 255 (rest := (KernelIdeal.Tail.ks3 (F := Ideal)).drop 256) (wrest := KernelIdeal.Tail.wr_ks3.drop 256) (y := KernelIdeal.main_v602) (c := KernelIdeal.main_v599) (a := KernelIdeal.main_v601) (b := KernelIdeal.main_call73_v1) rfl rfl (by decide +kernel) (by decide +kernel) (by decide +kernel) (by decide +kernel)
  have eR := final_ternary (ReferenceIdeal.Hand.writes_tlOps3 (F := Ideal)) WR 250 (rest := (ReferenceIdeal.Hand.tlOps3 (F := Ideal)).drop 251) (wrest := ReferenceIdeal.Hand.wr_tlOps3.drop 251) (y := ReferenceIdeal.main_v693) (c := ReferenceIdeal.main_v690) (a := ReferenceIdeal.main_v692) (b := ReferenceIdeal.main_call77_v1) rfl rfl (by decide +kernel) (by decide +kernel) (by decide +kernel) (by decide +kernel)
  rw [eK, eR, h206 WK WR hP hLin hVal, h246 WK WR hP hLin hVal, h249 WK WR hP hLin hVal]
  try rfl
theorem h251 : StableHlo.after (KernelIdeal.Tail.ks3 (F := Ideal)) WK (Proc.devRef .tc KernelIdeal.main_c_238) = StableHlo.after (ReferenceIdeal.Hand.tlOps3 (F := Ideal)) WR (Proc.devRef .tc ReferenceIdeal.main_c_257) :=
  by
  have eK := final_nullary (KernelIdeal.Tail.writes_ks3 (F := Ideal)) WK 256 (rest := (KernelIdeal.Tail.ks3 (F := Ideal)).drop 257) (wrest := KernelIdeal.Tail.wr_ks3.drop 257) (y := KernelIdeal.main_c_238) rfl rfl (by decide +kernel)
  have eR := final_nullary (ReferenceIdeal.Hand.writes_tlOps3 (F := Ideal)) WR 251 (rest := (ReferenceIdeal.Hand.tlOps3 (F := Ideal)).drop 252) (wrest := ReferenceIdeal.Hand.wr_tlOps3.drop 252) (y := ReferenceIdeal.main_c_257) rfl rfl (by decide +kernel)
  rw [eK, eR]
  try rfl
theorem h252 : StableHlo.after (KernelIdeal.Tail.ks3 (F := Ideal)) WK (Proc.devRef .tc KernelIdeal.main_v603) = StableHlo.after (ReferenceIdeal.Hand.tlOps3 (F := Ideal)) WR (Proc.devRef .tc ReferenceIdeal.main_v694) :=
  by
  have eK := final_unary (KernelIdeal.Tail.writes_ks3 (F := Ideal)) WK 257 (rest := (KernelIdeal.Tail.ks3 (F := Ideal)).drop 258) (wrest := KernelIdeal.Tail.wr_ks3.drop 258) (y := KernelIdeal.main_v603) (x := KernelIdeal.main_c_238) rfl rfl (by decide +kernel) (by decide +kernel)
  have eR := final_unary (ReferenceIdeal.Hand.writes_tlOps3 (F := Ideal)) WR 252 (rest := (ReferenceIdeal.Hand.tlOps3 (F := Ideal)).drop 253) (wrest := ReferenceIdeal.Hand.wr_tlOps3.drop 253) (y := ReferenceIdeal.main_v694) (x := ReferenceIdeal.main_c_257) rfl rfl (by decide +kernel) (by decide +kernel)
  rw [eK, eR, h251 WK WR hP hLin hVal]
  try rfl
theorem h253 : StableHlo.after (KernelIdeal.Tail.ks3 (F := Ideal)) WK (Proc.devRef .tc KernelIdeal.main_v604) = StableHlo.after (ReferenceIdeal.Hand.tlOps3 (F := Ideal)) WR (Proc.devRef .tc ReferenceIdeal.main_v695) :=
  by
  have eK := final_binary (KernelIdeal.Tail.writes_ks3 (F := Ideal)) WK 258 (rest := (KernelIdeal.Tail.ks3 (F := Ideal)).drop 259) (wrest := KernelIdeal.Tail.wr_ks3.drop 259) (y := KernelIdeal.main_v604) (a := KernelIdeal.main_v593) (b := KernelIdeal.main_v603) rfl rfl (by decide +kernel) (by decide +kernel) (by decide +kernel)
  have eR := final_binary (ReferenceIdeal.Hand.writes_tlOps3 (F := Ideal)) WR 253 (rest := (ReferenceIdeal.Hand.tlOps3 (F := Ideal)).drop 254) (wrest := ReferenceIdeal.Hand.wr_tlOps3.drop 254) (y := ReferenceIdeal.main_v695) (a := ReferenceIdeal.main_v684) (b := ReferenceIdeal.main_v694) rfl rfl (by decide +kernel) (by decide +kernel) (by decide +kernel)
  rw [eK, eR, h178 WK WR hP hLin hVal, h252 WK WR hP hLin hVal]
  try rfl
theorem h254 : StableHlo.after (KernelIdeal.Tail.ks3 (F := Ideal)) WK (Proc.devRef .tc KernelIdeal.main_c_239) = StableHlo.after (ReferenceIdeal.Hand.tlOps3 (F := Ideal)) WR (Proc.devRef .tc ReferenceIdeal.main_c_258) :=
  by
  have eK := final_nullary (KernelIdeal.Tail.writes_ks3 (F := Ideal)) WK 259 (rest := (KernelIdeal.Tail.ks3 (F := Ideal)).drop 260) (wrest := KernelIdeal.Tail.wr_ks3.drop 260) (y := KernelIdeal.main_c_239) rfl rfl (by decide +kernel)
  have eR := final_nullary (ReferenceIdeal.Hand.writes_tlOps3 (F := Ideal)) WR 254 (rest := (ReferenceIdeal.Hand.tlOps3 (F := Ideal)).drop 255) (wrest := ReferenceIdeal.Hand.wr_tlOps3.drop 255) (y := ReferenceIdeal.main_c_258) rfl rfl (by decide +kernel)
  rw [eK, eR]
  try rfl
theorem h255 : StableHlo.after (KernelIdeal.Tail.ks3 (F := Ideal)) WK (Proc.devRef .tc KernelIdeal.main_call74_v0) = StableHlo.after (ReferenceIdeal.Hand.tlOps3 (F := Ideal)) WR (Proc.devRef .tc ReferenceIdeal.main_call78_v0) :=
  by
  have eK := final_unary (KernelIdeal.Tail.writes_ks3 (F := Ideal)) WK 260 (rest := (KernelIdeal.Tail.ks3 (F := Ideal)).drop 261) (wrest := KernelIdeal.Tail.wr_ks3.drop 261) (y := KernelIdeal.main_call74_v0) (x := KernelIdeal.main_c_239) rfl rfl (by decide +kernel) (by decide +kernel)
  have eR := final_unary (ReferenceIdeal.Hand.writes_tlOps3 (F := Ideal)) WR 255 (rest := (ReferenceIdeal.Hand.tlOps3 (F := Ideal)).drop 256) (wrest := ReferenceIdeal.Hand.wr_tlOps3.drop 256) (y := ReferenceIdeal.main_call78_v0) (x := ReferenceIdeal.main_c_258) rfl rfl (by decide +kernel) (by decide +kernel)
  rw [eK, eR, h254 WK WR hP hLin hVal]
  try rfl
theorem h256 : StableHlo.after (KernelIdeal.Tail.ks3 (F := Ideal)) WK (Proc.devRef .tc KernelIdeal.main_call74_c) = StableHlo.after (ReferenceIdeal.Hand.tlOps3 (F := Ideal)) WR (Proc.devRef .tc ReferenceIdeal.main_call78_c) :=
  by
  have eK := final_nullary (KernelIdeal.Tail.writes_ks3 (F := Ideal)) WK 261 (rest := (KernelIdeal.Tail.ks3 (F := Ideal)).drop 262) (wrest := KernelIdeal.Tail.wr_ks3.drop 262) (y := KernelIdeal.main_call74_c) rfl rfl (by decide +kernel)
  have eR := final_nullary (ReferenceIdeal.Hand.writes_tlOps3 (F := Ideal)) WR 256 (rest := (ReferenceIdeal.Hand.tlOps3 (F := Ideal)).drop 257) (wrest := ReferenceIdeal.Hand.wr_tlOps3.drop 257) (y := ReferenceIdeal.main_call78_c) rfl rfl (by decide +kernel)
  rw [eK, eR]
  try rfl
theorem h257 : StableHlo.after (KernelIdeal.Tail.ks3 (F := Ideal)) WK (Proc.devRef .tc KernelIdeal.main_call74_v1) = StableHlo.after (ReferenceIdeal.Hand.tlOps3 (F := Ideal)) WR (Proc.devRef .tc ReferenceIdeal.main_call78_v1) :=
  by
  have eK := final_binary (KernelIdeal.Tail.writes_ks3 (F := Ideal)) WK 262 (rest := (KernelIdeal.Tail.ks3 (F := Ideal)).drop 263) (wrest := KernelIdeal.Tail.wr_ks3.drop 263) (y := KernelIdeal.main_call74_v1) (a := KernelIdeal.main_call74_v0) (b := KernelIdeal.main_call74_c) rfl rfl (by decide +kernel) (by decide +kernel) (by decide +kernel)
  have eR := final_binary (ReferenceIdeal.Hand.writes_tlOps3 (F := Ideal)) WR 257 (rest := (ReferenceIdeal.Hand.tlOps3 (F := Ideal)).drop 258) (wrest := ReferenceIdeal.Hand.wr_tlOps3.drop 258) (y := ReferenceIdeal.main_call78_v1) (a := ReferenceIdeal.main_call78_v0) (b := ReferenceIdeal.main_call78_c) rfl rfl (by decide +kernel) (by decide +kernel) (by decide +kernel)
  rw [eK, eR, h255 WK WR hP hLin hVal, h256 WK WR hP hLin hVal]
  try rfl
theorem h258 : StableHlo.after (KernelIdeal.Tail.ks3 (F := Ideal)) WK (Proc.devRef .tc KernelIdeal.main_call74_c_0) = StableHlo.after (ReferenceIdeal.Hand.tlOps3 (F := Ideal)) WR (Proc.devRef .tc ReferenceIdeal.main_call78_c_0) :=
  by
  have eK := final_nullary (KernelIdeal.Tail.writes_ks3 (F := Ideal)) WK 263 (rest := (KernelIdeal.Tail.ks3 (F := Ideal)).drop 264) (wrest := KernelIdeal.Tail.wr_ks3.drop 264) (y := KernelIdeal.main_call74_c_0) rfl rfl (by decide +kernel)
  have eR := final_nullary (ReferenceIdeal.Hand.writes_tlOps3 (F := Ideal)) WR 258 (rest := (ReferenceIdeal.Hand.tlOps3 (F := Ideal)).drop 259) (wrest := ReferenceIdeal.Hand.wr_tlOps3.drop 259) (y := ReferenceIdeal.main_call78_c_0) rfl rfl (by decide +kernel)
  rw [eK, eR]
  try rfl
theorem h259 : StableHlo.after (KernelIdeal.Tail.ks3 (F := Ideal)) WK (Proc.devRef .tc KernelIdeal.main_call74_v2) = StableHlo.after (ReferenceIdeal.Hand.tlOps3 (F := Ideal)) WR (Proc.devRef .tc ReferenceIdeal.main_call78_v2) :=
  by
  have eK := final_ternary (KernelIdeal.Tail.writes_ks3 (F := Ideal)) WK 264 (rest := (KernelIdeal.Tail.ks3 (F := Ideal)).drop 265) (wrest := KernelIdeal.Tail.wr_ks3.drop 265) (y := KernelIdeal.main_call74_v2) (c := KernelIdeal.main_call74_v1) (a := KernelIdeal.main_call74_c_0) (b := KernelIdeal.main_call74_v0) rfl rfl (by decide +kernel) (by decide +kernel) (by decide +kernel) (by decide +kernel)
  have eR := final_ternary (ReferenceIdeal.Hand.writes_tlOps3 (F := Ideal)) WR 259 (rest := (ReferenceIdeal.Hand.tlOps3 (F := Ideal)).drop 260) (wrest := ReferenceIdeal.Hand.wr_tlOps3.drop 260) (y := ReferenceIdeal.main_call78_v2) (c := ReferenceIdeal.main_call78_v1) (a := ReferenceIdeal.main_call78_c_0) (b := ReferenceIdeal.main_call78_v0) rfl rfl (by decide +kernel) (by decide +kernel) (by decide +kernel) (by decide +kernel)
  rw [eK, eR, h257 WK WR hP hLin hVal, h258 WK WR hP hLin hVal, h255 WK WR hP hLin hVal]
  try rfl
theorem h260 : StableHlo.after (KernelIdeal.Tail.ks3 (F := Ideal)) WK (Proc.devRef .tc KernelIdeal.main_call74_v3) = StableHlo.after (ReferenceIdeal.Hand.tlOps3 (F := Ideal)) WR (Proc.devRef .tc ReferenceIdeal.main_call78_v3) :=
  by
  have eK := final_unary (KernelIdeal.Tail.writes_ks3 (F := Ideal)) WK 265 (rest := (KernelIdeal.Tail.ks3 (F := Ideal)).drop 266) (wrest := KernelIdeal.Tail.wr_ks3.drop 266) (y := KernelIdeal.main_call74_v3) (x := KernelIdeal.main_call74_call0.v0.ref) rfl rfl (by decide +kernel) (by decide +kernel)
  have eR := final_unary (ReferenceIdeal.Hand.writes_tlOps3 (F := Ideal)) WR 260 (rest := (ReferenceIdeal.Hand.tlOps3 (F := Ideal)).drop 261) (wrest := ReferenceIdeal.Hand.wr_tlOps3.drop 261) (y := ReferenceIdeal.main_call78_v3) (x := ReferenceIdeal.main_call78_v2) rfl rfl (by decide +kernel) (by decide +kernel)
  rw [eK, eR, h259 WK WR hP hLin hVal]
  try rfl
theorem h261 : StableHlo.after (KernelIdeal.Tail.ks3 (F := Ideal)) WK (Proc.devRef .tc KernelIdeal.main_call74_v4) = StableHlo.after (ReferenceIdeal.Hand.tlOps3 (F := Ideal)) WR (Proc.devRef .tc ReferenceIdeal.main_call78_v4) :=
  by
  have eK := final_binary (KernelIdeal.Tail.writes_ks3 (F := Ideal)) WK 266 (rest := (KernelIdeal.Tail.ks3 (F := Ideal)).drop 267) (wrest := KernelIdeal.Tail.wr_ks3.drop 267) (y := KernelIdeal.main_call74_v4) (a := KernelIdeal.main_v593) (b := KernelIdeal.main_call74_v3) rfl rfl (by decide +kernel) (by decide +kernel) (by decide +kernel)
  have eR := final_binary (ReferenceIdeal.Hand.writes_tlOps3 (F := Ideal)) WR 261 (rest := (ReferenceIdeal.Hand.tlOps3 (F := Ideal)).drop 262) (wrest := ReferenceIdeal.Hand.wr_tlOps3.drop 262) (y := ReferenceIdeal.main_call78_v4) (a := ReferenceIdeal.main_v684) (b := ReferenceIdeal.main_call78_v3) rfl rfl (by decide +kernel) (by decide +kernel) (by decide +kernel)
  rw [eK, eR, h178 WK WR hP hLin hVal, h260 WK WR hP hLin hVal]
  try rfl
theorem h262 : StableHlo.after (KernelIdeal.Tail.ks3 (F := Ideal)) WK (Proc.devRef .tc KernelIdeal.main_call74_c_1) = StableHlo.after (ReferenceIdeal.Hand.tlOps3 (F := Ideal)) WR (Proc.devRef .tc ReferenceIdeal.main_call78_c_1) :=
  by
  have eK := final_nullary (KernelIdeal.Tail.writes_ks3 (F := Ideal)) WK 267 (rest := (KernelIdeal.Tail.ks3 (F := Ideal)).drop 268) (wrest := KernelIdeal.Tail.wr_ks3.drop 268) (y := KernelIdeal.main_call74_c_1) rfl rfl (by decide +kernel)
  have eR := final_nullary (ReferenceIdeal.Hand.writes_tlOps3 (F := Ideal)) WR 262 (rest := (ReferenceIdeal.Hand.tlOps3 (F := Ideal)).drop 263) (wrest := ReferenceIdeal.Hand.wr_tlOps3.drop 263) (y := ReferenceIdeal.main_call78_c_1) rfl rfl (by decide +kernel)
  rw [eK, eR]
  try rfl
theorem h263 : StableHlo.after (KernelIdeal.Tail.ks3 (F := Ideal)) WK (Proc.devRef .tc KernelIdeal.main_call74_v5) = StableHlo.after (ReferenceIdeal.Hand.tlOps3 (F := Ideal)) WR (Proc.devRef .tc ReferenceIdeal.main_call78_v5) :=
  by
  have eK := final_unary (KernelIdeal.Tail.writes_ks3 (F := Ideal)) WK 268 (rest := (KernelIdeal.Tail.ks3 (F := Ideal)).drop 269) (wrest := KernelIdeal.Tail.wr_ks3.drop 269) (y := KernelIdeal.main_call74_v5) (x := KernelIdeal.main_call74_c_1) rfl rfl (by decide +kernel) (by decide +kernel)
  have eR := final_unary (ReferenceIdeal.Hand.writes_tlOps3 (F := Ideal)) WR 263 (rest := (ReferenceIdeal.Hand.tlOps3 (F := Ideal)).drop 264) (wrest := ReferenceIdeal.Hand.wr_tlOps3.drop 264) (y := ReferenceIdeal.main_call78_v5) (x := ReferenceIdeal.main_call78_c_1) rfl rfl (by decide +kernel) (by decide +kernel)
  rw [eK, eR, h262 WK WR hP hLin hVal]
  try rfl
theorem h264 : StableHlo.after (KernelIdeal.Tail.ks3 (F := Ideal)) WK (Proc.devRef .tc KernelIdeal.main_call74_v6) = StableHlo.after (ReferenceIdeal.Hand.tlOps3 (F := Ideal)) WR (Proc.devRef .tc ReferenceIdeal.main_call78_v6) :=
  by
  have eK := final_binary (KernelIdeal.Tail.writes_ks3 (F := Ideal)) WK 269 (rest := (KernelIdeal.Tail.ks3 (F := Ideal)).drop 270) (wrest := KernelIdeal.Tail.wr_ks3.drop 270) (y := KernelIdeal.main_call74_v6) (a := KernelIdeal.main_call74_v4) (b := KernelIdeal.main_call74_v5) rfl rfl (by decide +kernel) (by decide +kernel) (by decide +kernel)
  have eR := final_binary (ReferenceIdeal.Hand.writes_tlOps3 (F := Ideal)) WR 264 (rest := (ReferenceIdeal.Hand.tlOps3 (F := Ideal)).drop 265) (wrest := ReferenceIdeal.Hand.wr_tlOps3.drop 265) (y := ReferenceIdeal.main_call78_v6) (a := ReferenceIdeal.main_call78_v4) (b := ReferenceIdeal.main_call78_v5) rfl rfl (by decide +kernel) (by decide +kernel) (by decide +kernel)
  rw [eK, eR, h261 WK WR hP hLin hVal, h263 WK WR hP hLin hVal]
  try rfl
theorem h265 : StableHlo.after (KernelIdeal.Tail.ks3 (F := Ideal)) WK (Proc.devRef .tc KernelIdeal.main_call74_c_2) = StableHlo.after (ReferenceIdeal.Hand.tlOps3 (F := Ideal)) WR (Proc.devRef .tc ReferenceIdeal.main_call78_c_2) :=
  by
  have eK := final_nullary (KernelIdeal.Tail.writes_ks3 (F := Ideal)) WK 270 (rest := (KernelIdeal.Tail.ks3 (F := Ideal)).drop 271) (wrest := KernelIdeal.Tail.wr_ks3.drop 271) (y := KernelIdeal.main_call74_c_2) rfl rfl (by decide +kernel)
  have eR := final_nullary (ReferenceIdeal.Hand.writes_tlOps3 (F := Ideal)) WR 265 (rest := (ReferenceIdeal.Hand.tlOps3 (F := Ideal)).drop 266) (wrest := ReferenceIdeal.Hand.wr_tlOps3.drop 266) (y := ReferenceIdeal.main_call78_c_2) rfl rfl (by decide +kernel)
  rw [eK, eR]
  try rfl
theorem h266 : StableHlo.after (KernelIdeal.Tail.ks3 (F := Ideal)) WK (Proc.devRef .tc KernelIdeal.main_call74_v7) = StableHlo.after (ReferenceIdeal.Hand.tlOps3 (F := Ideal)) WR (Proc.devRef .tc ReferenceIdeal.main_call78_v7) :=
  by
  have eK := final_unary (KernelIdeal.Tail.writes_ks3 (F := Ideal)) WK 271 (rest := (KernelIdeal.Tail.ks3 (F := Ideal)).drop 272) (wrest := KernelIdeal.Tail.wr_ks3.drop 272) (y := KernelIdeal.main_call74_v7) (x := KernelIdeal.main_call74_c_2) rfl rfl (by decide +kernel) (by decide +kernel)
  have eR := final_unary (ReferenceIdeal.Hand.writes_tlOps3 (F := Ideal)) WR 266 (rest := (ReferenceIdeal.Hand.tlOps3 (F := Ideal)).drop 267) (wrest := ReferenceIdeal.Hand.wr_tlOps3.drop 267) (y := ReferenceIdeal.main_call78_v7) (x := ReferenceIdeal.main_call78_c_2) rfl rfl (by decide +kernel) (by decide +kernel)
  rw [eK, eR, h265 WK WR hP hLin hVal]
  try rfl
theorem h267 : StableHlo.after (KernelIdeal.Tail.ks3 (F := Ideal)) WK (Proc.devRef .tc KernelIdeal.main_call74_v8) = StableHlo.after (ReferenceIdeal.Hand.tlOps3 (F := Ideal)) WR (Proc.devRef .tc ReferenceIdeal.main_call78_v8) :=
  by
  have eK := final_binary (KernelIdeal.Tail.writes_ks3 (F := Ideal)) WK 272 (rest := (KernelIdeal.Tail.ks3 (F := Ideal)).drop 273) (wrest := KernelIdeal.Tail.wr_ks3.drop 273) (y := KernelIdeal.main_call74_v8) (a := KernelIdeal.main_call74_v4) (b := KernelIdeal.main_call74_v7) rfl rfl (by decide +kernel) (by decide +kernel) (by decide +kernel)
  have eR := final_binary (ReferenceIdeal.Hand.writes_tlOps3 (F := Ideal)) WR 267 (rest := (ReferenceIdeal.Hand.tlOps3 (F := Ideal)).drop 268) (wrest := ReferenceIdeal.Hand.wr_tlOps3.drop 268) (y := ReferenceIdeal.main_call78_v8) (a := ReferenceIdeal.main_call78_v4) (b := ReferenceIdeal.main_call78_v7) rfl rfl (by decide +kernel) (by decide +kernel) (by decide +kernel)
  rw [eK, eR, h261 WK WR hP hLin hVal, h266 WK WR hP hLin hVal]
  try rfl
theorem h268 : StableHlo.after (KernelIdeal.Tail.ks3 (F := Ideal)) WK (Proc.devRef .tc KernelIdeal.main_call74_c_3) = StableHlo.after (ReferenceIdeal.Hand.tlOps3 (F := Ideal)) WR (Proc.devRef .tc ReferenceIdeal.main_call78_c_3) :=
  by
  have eK := final_nullary (KernelIdeal.Tail.writes_ks3 (F := Ideal)) WK 273 (rest := (KernelIdeal.Tail.ks3 (F := Ideal)).drop 274) (wrest := KernelIdeal.Tail.wr_ks3.drop 274) (y := KernelIdeal.main_call74_c_3) rfl rfl (by decide +kernel)
  have eR := final_nullary (ReferenceIdeal.Hand.writes_tlOps3 (F := Ideal)) WR 268 (rest := (ReferenceIdeal.Hand.tlOps3 (F := Ideal)).drop 269) (wrest := ReferenceIdeal.Hand.wr_tlOps3.drop 269) (y := ReferenceIdeal.main_call78_c_3) rfl rfl (by decide +kernel)
  rw [eK, eR]
  try rfl
theorem h269 : StableHlo.after (KernelIdeal.Tail.ks3 (F := Ideal)) WK (Proc.devRef .tc KernelIdeal.main_call74_v9) = StableHlo.after (ReferenceIdeal.Hand.tlOps3 (F := Ideal)) WR (Proc.devRef .tc ReferenceIdeal.main_call78_v9) :=
  by
  have eK := final_binary (KernelIdeal.Tail.writes_ks3 (F := Ideal)) WK 274 (rest := (KernelIdeal.Tail.ks3 (F := Ideal)).drop 275) (wrest := KernelIdeal.Tail.wr_ks3.drop 275) (y := KernelIdeal.main_call74_v9) (a := KernelIdeal.main_call74_call0.v0.ref) (b := KernelIdeal.main_call74_c_3) rfl rfl (by decide +kernel) (by decide +kernel) (by decide +kernel)
  have eR := final_binary (ReferenceIdeal.Hand.writes_tlOps3 (F := Ideal)) WR 269 (rest := (ReferenceIdeal.Hand.tlOps3 (F := Ideal)).drop 270) (wrest := ReferenceIdeal.Hand.wr_tlOps3.drop 270) (y := ReferenceIdeal.main_call78_v9) (a := ReferenceIdeal.main_call78_v2) (b := ReferenceIdeal.main_call78_c_3) rfl rfl (by decide +kernel) (by decide +kernel) (by decide +kernel)
  rw [eK, eR, h259 WK WR hP hLin hVal, h268 WK WR hP hLin hVal]
  try rfl
theorem h270 : StableHlo.after (KernelIdeal.Tail.ks3 (F := Ideal)) WK (Proc.devRef .tc KernelIdeal.main_call74_v10) = StableHlo.after (ReferenceIdeal.Hand.tlOps3 (F := Ideal)) WR (Proc.devRef .tc ReferenceIdeal.main_call78_v10) :=
  by
  have eK := final_unary (KernelIdeal.Tail.writes_ks3 (F := Ideal)) WK 275 (rest := (KernelIdeal.Tail.ks3 (F := Ideal)).drop 276) (wrest := KernelIdeal.Tail.wr_ks3.drop 276) (y := KernelIdeal.main_call74_v10) (x := KernelIdeal.main_call74_v9) rfl rfl (by decide +kernel) (by decide +kernel)
  have eR := final_unary (ReferenceIdeal.Hand.writes_tlOps3 (F := Ideal)) WR 270 (rest := (ReferenceIdeal.Hand.tlOps3 (F := Ideal)).drop 271) (wrest := ReferenceIdeal.Hand.wr_tlOps3.drop 271) (y := ReferenceIdeal.main_call78_v10) (x := ReferenceIdeal.main_call78_v9) rfl rfl (by decide +kernel) (by decide +kernel)
  rw [eK, eR, h269 WK WR hP hLin hVal]
  try rfl
theorem h271 : StableHlo.after (KernelIdeal.Tail.ks3 (F := Ideal)) WK (Proc.devRef .tc KernelIdeal.main_call74_v11) = StableHlo.after (ReferenceIdeal.Hand.tlOps3 (F := Ideal)) WR (Proc.devRef .tc ReferenceIdeal.main_call78_v11) :=
  by
  have eK := final_binary (KernelIdeal.Tail.writes_ks3 (F := Ideal)) WK 276 (rest := (KernelIdeal.Tail.ks3 (F := Ideal)).drop 277) (wrest := KernelIdeal.Tail.wr_ks3.drop 277) (y := KernelIdeal.main_call74_v11) (a := KernelIdeal.main_call74_v8) (b := KernelIdeal.main_call74_v10) rfl rfl (by decide +kernel) (by decide +kernel) (by decide +kernel)
  have eR := final_binary (ReferenceIdeal.Hand.writes_tlOps3 (F := Ideal)) WR 271 (rest := (ReferenceIdeal.Hand.tlOps3 (F := Ideal)).drop 272) (wrest := ReferenceIdeal.Hand.wr_tlOps3.drop 272) (y := ReferenceIdeal.main_call78_v11) (a := ReferenceIdeal.main_call78_v8) (b := ReferenceIdeal.main_call78_v10) rfl rfl (by decide +kernel) (by decide +kernel) (by decide +kernel)
  rw [eK, eR, h267 WK WR hP hLin hVal, h270 WK WR hP hLin hVal]
  try rfl
theorem h272 : StableHlo.after (KernelIdeal.Tail.ks3 (F := Ideal)) WK (Proc.devRef .tc KernelIdeal.main_call74_v12) = StableHlo.after (ReferenceIdeal.Hand.tlOps3 (F := Ideal)) WR (Proc.devRef .tc ReferenceIdeal.main_call78_v12) :=
  by
  have eK := final_binary (KernelIdeal.Tail.writes_ks3 (F := Ideal)) WK 277 (rest := (KernelIdeal.Tail.ks3 (F := Ideal)).drop 278) (wrest := KernelIdeal.Tail.wr_ks3.drop 278) (y := KernelIdeal.main_call74_v12) (a := KernelIdeal.main_call74_v11) (b := KernelIdeal.main_call74_v6) rfl rfl (by decide +kernel) (by decide +kernel) (by decide +kernel)
  have eR := final_binary (ReferenceIdeal.Hand.writes_tlOps3 (F := Ideal)) WR 272 (rest := (ReferenceIdeal.Hand.tlOps3 (F := Ideal)).drop 273) (wrest := ReferenceIdeal.Hand.wr_tlOps3.drop 273) (y := ReferenceIdeal.main_call78_v12) (a := ReferenceIdeal.main_call78_v11) (b := ReferenceIdeal.main_call78_v6) rfl rfl (by decide +kernel) (by decide +kernel) (by decide +kernel)
  rw [eK, eR, h271 WK WR hP hLin hVal, h264 WK WR hP hLin hVal]
  try rfl
theorem h273 : StableHlo.after (KernelIdeal.Tail.ks3 (F := Ideal)) WK (Proc.devRef .tc KernelIdeal.main_call74_v13) = StableHlo.after (ReferenceIdeal.Hand.tlOps3 (F := Ideal)) WR (Proc.devRef .tc ReferenceIdeal.main_call78_v13) :=
  by
  have eK := final_unary (KernelIdeal.Tail.writes_ks3 (F := Ideal)) WK 278 (rest := (KernelIdeal.Tail.ks3 (F := Ideal)).drop 279) (wrest := KernelIdeal.Tail.wr_ks3.drop 279) (y := KernelIdeal.main_call74_v13) (x := KernelIdeal.main_call74_call0.v0.ref) rfl rfl (by decide +kernel) (by decide +kernel)
  have eR := final_unary (ReferenceIdeal.Hand.writes_tlOps3 (F := Ideal)) WR 273 (rest := (ReferenceIdeal.Hand.tlOps3 (F := Ideal)).drop 274) (wrest := ReferenceIdeal.Hand.wr_tlOps3.drop 274) (y := ReferenceIdeal.main_call78_v13) (x := ReferenceIdeal.main_call78_v2) rfl rfl (by decide +kernel) (by decide +kernel)
  rw [eK, eR, h259 WK WR hP hLin hVal]
  try rfl
theorem h274 : StableHlo.after (KernelIdeal.Tail.ks3 (F := Ideal)) WK (Proc.devRef .tc KernelIdeal.main_call74_v14) = StableHlo.after (ReferenceIdeal.Hand.tlOps3 (F := Ideal)) WR (Proc.devRef .tc ReferenceIdeal.main_call78_v14) :=
  by
  have eK := final_binary (KernelIdeal.Tail.writes_ks3 (F := Ideal)) WK 279 (rest := (KernelIdeal.Tail.ks3 (F := Ideal)).drop 280) (wrest := KernelIdeal.Tail.wr_ks3.drop 280) (y := KernelIdeal.main_call74_v14) (a := KernelIdeal.main_call74_v4) (b := KernelIdeal.main_call74_v13) rfl rfl (by decide +kernel) (by decide +kernel) (by decide +kernel)
  have eR := final_binary (ReferenceIdeal.Hand.writes_tlOps3 (F := Ideal)) WR 274 (rest := (ReferenceIdeal.Hand.tlOps3 (F := Ideal)).drop 275) (wrest := ReferenceIdeal.Hand.wr_tlOps3.drop 275) (y := ReferenceIdeal.main_call78_v14) (a := ReferenceIdeal.main_call78_v4) (b := ReferenceIdeal.main_call78_v13) rfl rfl (by decide +kernel) (by decide +kernel) (by decide +kernel)
  rw [eK, eR, h261 WK WR hP hLin hVal, h273 WK WR hP hLin hVal]
  try rfl
theorem h275 : StableHlo.after (KernelIdeal.Tail.ks3 (F := Ideal)) WK (Proc.devRef .tc KernelIdeal.main_v605) = StableHlo.after (ReferenceIdeal.Hand.tlOps3 (F := Ideal)) WR (Proc.devRef .tc ReferenceIdeal.main_v696) :=
  by
  have eK := final_ternary (KernelIdeal.Tail.writes_ks3 (F := Ideal)) WK 280 (rest := (KernelIdeal.Tail.ks3 (F := Ideal)).drop 281) (wrest := KernelIdeal.Tail.wr_ks3.drop 281) (y := KernelIdeal.main_v605) (c := KernelIdeal.main_call74_v12) (a := KernelIdeal.main_call74_v14) (b := KernelIdeal.main_call74_v4) rfl rfl (by decide +kernel) (by decide +kernel) (by decide +kernel) (by decide +kernel)
  have eR := final_ternary (ReferenceIdeal.Hand.writes_tlOps3 (F := Ideal)) WR 275 (rest := (ReferenceIdeal.Hand.tlOps3 (F := Ideal)).drop 276) (wrest := ReferenceIdeal.Hand.wr_tlOps3.drop 276) (y := ReferenceIdeal.main_v696) (c := ReferenceIdeal.main_call78_v12) (a := ReferenceIdeal.main_call78_v14) (b := ReferenceIdeal.main_call78_v4) rfl rfl (by decide +kernel) (by decide +kernel) (by decide +kernel) (by decide +kernel)
  rw [eK, eR, h272 WK WR hP hLin hVal, h274 WK WR hP hLin hVal, h261 WK WR hP hLin hVal]
  try rfl
theorem h276 : StableHlo.after (KernelIdeal.Tail.ks3 (F := Ideal)) WK (Proc.devRef .tc KernelIdeal.main_c_240) = StableHlo.after (ReferenceIdeal.Hand.tlOps3 (F := Ideal)) WR (Proc.devRef .tc ReferenceIdeal.main_c_259) :=
  by
  have eK := final_nullary (KernelIdeal.Tail.writes_ks3 (F := Ideal)) WK 281 (rest := (KernelIdeal.Tail.ks3 (F := Ideal)).drop 282) (wrest := KernelIdeal.Tail.wr_ks3.drop 282) (y := KernelIdeal.main_c_240) rfl rfl (by decide +kernel)
  have eR := final_nullary (ReferenceIdeal.Hand.writes_tlOps3 (F := Ideal)) WR 276 (rest := (ReferenceIdeal.Hand.tlOps3 (F := Ideal)).drop 277) (wrest := ReferenceIdeal.Hand.wr_tlOps3.drop 277) (y := ReferenceIdeal.main_c_259) rfl rfl (by decide +kernel)
  rw [eK, eR]
  try rfl
theorem h277 : StableHlo.after (KernelIdeal.Tail.ks3 (F := Ideal)) WK (Proc.devRef .tc KernelIdeal.main_call75_v0) = StableHlo.after (ReferenceIdeal.Hand.tlOps3 (F := Ideal)) WR (Proc.devRef .tc ReferenceIdeal.main_call79_v0) :=
  by
  have eK := final_unary (KernelIdeal.Tail.writes_ks3 (F := Ideal)) WK 282 (rest := (KernelIdeal.Tail.ks3 (F := Ideal)).drop 283) (wrest := KernelIdeal.Tail.wr_ks3.drop 283) (y := KernelIdeal.main_call75_v0) (x := KernelIdeal.main_c_240) rfl rfl (by decide +kernel) (by decide +kernel)
  have eR := final_unary (ReferenceIdeal.Hand.writes_tlOps3 (F := Ideal)) WR 277 (rest := (ReferenceIdeal.Hand.tlOps3 (F := Ideal)).drop 278) (wrest := ReferenceIdeal.Hand.wr_tlOps3.drop 278) (y := ReferenceIdeal.main_call79_v0) (x := ReferenceIdeal.main_c_259) rfl rfl (by decide +kernel) (by decide +kernel)
  rw [eK, eR, h276 WK WR hP hLin hVal]
  try rfl
theorem h278 : StableHlo.after (KernelIdeal.Tail.ks3 (F := Ideal)) WK (Proc.devRef .tc KernelIdeal.main_call75_v1) = StableHlo.after (ReferenceIdeal.Hand.tlOps3 (F := Ideal)) WR (Proc.devRef .tc ReferenceIdeal.main_call79_v1) :=
  by
  have eK := final_unary (KernelIdeal.Tail.writes_ks3 (F := Ideal)) WK 283 (rest := (KernelIdeal.Tail.ks3 (F := Ideal)).drop 284) (wrest := KernelIdeal.Tail.wr_ks3.drop 284) (y := KernelIdeal.main_call75_v1) (x := KernelIdeal.main_call75_v0) rfl rfl (by decide +kernel) (by decide +kernel)
  have eR := final_unary (ReferenceIdeal.Hand.writes_tlOps3 (F := Ideal)) WR 278 (rest := (ReferenceIdeal.Hand.tlOps3 (F := Ideal)).drop 279) (wrest := ReferenceIdeal.Hand.wr_tlOps3.drop 279) (y := ReferenceIdeal.main_call79_v1) (x := ReferenceIdeal.main_call79_v0) rfl rfl (by decide +kernel) (by decide +kernel)
  rw [eK, eR, h277 WK WR hP hLin hVal]
  try rfl
theorem h279 : StableHlo.after (KernelIdeal.Tail.ks3 (F := Ideal)) WK (Proc.devRef .tc KernelIdeal.main_v606) = StableHlo.after (ReferenceIdeal.Hand.tlOps3 (F := Ideal)) WR (Proc.devRef .tc ReferenceIdeal.main_v697) :=
  by
  have eK := final_ternary (KernelIdeal.Tail.writes_ks3 (F := Ideal)) WK 284 (rest := (KernelIdeal.Tail.ks3 (F := Ideal)).drop 285) (wrest := KernelIdeal.Tail.wr_ks3.drop 285) (y := KernelIdeal.main_v606) (c := KernelIdeal.main_v604) (a := KernelIdeal.main_v605) (b := KernelIdeal.main_call75_v1) rfl rfl (by decide +kernel) (by decide +kernel) (by decide +kernel) (by decide +kernel)
  have eR := final_ternary (ReferenceIdeal.Hand.writes_tlOps3 (F := Ideal)) WR 279 (rest := (ReferenceIdeal.Hand.tlOps3 (F := Ideal)).drop 280) (wrest := ReferenceIdeal.Hand.wr_tlOps3.drop 280) (y := ReferenceIdeal.main_v697) (c := ReferenceIdeal.main_v695) (a := ReferenceIdeal.main_v696) (b := ReferenceIdeal.main_call79_v1) rfl rfl (by decide +kernel) (by decide +kernel) (by decide +kernel) (by decide +kernel)
  rw [eK, eR, h253 WK WR hP hLin hVal, h275 WK WR hP hLin hVal, h278 WK WR hP hLin hVal]
  try rfl
theorem h280 : StableHlo.after (KernelIdeal.Tail.ks3 (F := Ideal)) WK (Proc.devRef .tc KernelIdeal.main_v607) = StableHlo.after (ReferenceIdeal.Hand.tlOps3 (F := Ideal)) WR (Proc.devRef .tc ReferenceIdeal.main_v698) :=
  by
  have eK := final_unary (KernelIdeal.Tail.writes_ks3 (F := Ideal)) WK 285 (rest := (KernelIdeal.Tail.ks3 (F := Ideal)).drop 286) (wrest := KernelIdeal.Tail.wr_ks3.drop 286) (y := KernelIdeal.main_v607) (x := KernelIdeal.main_v597) rfl rfl (by decide +kernel) (by decide +kernel)
  have eR := final_unary (ReferenceIdeal.Hand.writes_tlOps3 (F := Ideal)) WR 280 (rest := (ReferenceIdeal.Hand.tlOps3 (F := Ideal)).drop 281) (wrest := ReferenceIdeal.Hand.wr_tlOps3.drop 281) (y := ReferenceIdeal.main_v698) (x := ReferenceIdeal.main_v688) rfl rfl (by decide +kernel) (by decide +kernel)
  rw [eK, eR, h203 WK WR hP hLin hVal]
  try rfl
theorem h281 : StableHlo.after (KernelIdeal.Tail.ks3 (F := Ideal)) WK (Proc.devRef .tc KernelIdeal.main_v608) = StableHlo.after (ReferenceIdeal.Hand.tlOps3 (F := Ideal)) WR (Proc.devRef .tc ReferenceIdeal.main_v699) :=
  by
  have eK := final_unary (KernelIdeal.Tail.writes_ks3 (F := Ideal)) WK 286 (rest := (KernelIdeal.Tail.ks3 (F := Ideal)).drop 287) (wrest := KernelIdeal.Tail.wr_ks3.drop 287) (y := KernelIdeal.main_v608) (x := KernelIdeal.main_v602) rfl rfl (by decide +kernel) (by decide +kernel)
  have eR := final_unary (ReferenceIdeal.Hand.writes_tlOps3 (F := Ideal)) WR 281 (rest := (ReferenceIdeal.Hand.tlOps3 (F := Ideal)).drop 282) (wrest := ReferenceIdeal.Hand.wr_tlOps3.drop 282) (y := ReferenceIdeal.main_v699) (x := ReferenceIdeal.main_v693) rfl rfl (by decide +kernel) (by decide +kernel)
  rw [eK, eR, h250 WK WR hP hLin hVal]
  try rfl
theorem h282 : StableHlo.after (KernelIdeal.Tail.ks3 (F := Ideal)) WK (Proc.devRef .tc KernelIdeal.main_v609) = StableHlo.after (ReferenceIdeal.Hand.tlOps3 (F := Ideal)) WR (Proc.devRef .tc ReferenceIdeal.main_v700) :=
  by
  have eK := final_unary (KernelIdeal.Tail.writes_ks3 (F := Ideal)) WK 287 (rest := (KernelIdeal.Tail.ks3 (F := Ideal)).drop 288) (wrest := KernelIdeal.Tail.wr_ks3.drop 288) (y := KernelIdeal.main_v609) (x := KernelIdeal.main_v606) rfl rfl (by decide +kernel) (by decide +kernel)
  have eR := final_unary (ReferenceIdeal.Hand.writes_tlOps3 (F := Ideal)) WR 282 (rest := (ReferenceIdeal.Hand.tlOps3 (F := Ideal)).drop 283) (wrest := ReferenceIdeal.Hand.wr_tlOps3.drop 283) (y := ReferenceIdeal.main_v700) (x := ReferenceIdeal.main_v697) rfl rfl (by decide +kernel) (by decide +kernel)
  rw [eK, eR, h279 WK WR hP hLin hVal]
  try rfl
theorem h283 : StableHlo.after (KernelIdeal.Tail.ks3 (F := Ideal)) WK (Proc.devRef .tc KernelIdeal.main_v610) = StableHlo.after (ReferenceIdeal.Hand.tlOps3 (F := Ideal)) WR (Proc.devRef .tc ReferenceIdeal.main_v701) := by
  refine (final_at (KernelIdeal.Tail.writes_ks3 (F := Ideal)) WK 288 (op := _) (rest := (KernelIdeal.Tail.ks3 (F := Ideal)).drop 289) (wrest := KernelIdeal.Tail.wr_ks3.drop 289) (y := KernelIdeal.main_v610) rfl rfl (by decide +kernel)).trans ?_
  refine Eq.symm ?_
  refine (final_at (ReferenceIdeal.Hand.writes_tlOps3 (F := Ideal)) WR 283 (op := _) (rest := (ReferenceIdeal.Hand.tlOps3 (F := Ideal)).drop 284) (wrest := ReferenceIdeal.Hand.wr_tlOps3.drop 284) (y := ReferenceIdeal.main_v701) rfl rfl (by decide +kernel)).trans ?_
  refine Eq.symm ?_
  refine (nary3_result _ _ _ _).trans ?_
  refine Eq.symm ?_
  refine (nary3_result _ _ _ _).trans ?_
  rw [stable (ReferenceIdeal.Hand.writes_tlOps3 (F := Ideal)) WR 283 ReferenceIdeal.main_v698 (by decide +kernel), stable (ReferenceIdeal.Hand.writes_tlOps3 (F := Ideal)) WR 283 ReferenceIdeal.main_v699 (by decide +kernel), stable (ReferenceIdeal.Hand.writes_tlOps3 (F := Ideal)) WR 283 ReferenceIdeal.main_v700 (by decide +kernel), stable (KernelIdeal.Tail.writes_ks3 (F := Ideal)) WK 288 KernelIdeal.main_v607 (by decide +kernel), stable (KernelIdeal.Tail.writes_ks3 (F := Ideal)) WK 288 KernelIdeal.main_v608 (by decide +kernel), stable (KernelIdeal.Tail.writes_ks3 (F := Ideal)) WK 288 KernelIdeal.main_v609 (by decide +kernel), h280 WK WR hP hLin hVal, h281 WK WR hP hLin hVal, h282 WK WR hP hLin hVal]
  rfl
theorem h284 : StableHlo.after (KernelIdeal.Tail.ks3 (F := Ideal)) WK (Proc.devRef .tc KernelIdeal.main_c_241) = StableHlo.after (ReferenceIdeal.Hand.tlOps3 (F := Ideal)) WR (Proc.devRef .tc ReferenceIdeal.main_c_260) :=
  by
  have eK := final_nullary (KernelIdeal.Tail.writes_ks3 (F := Ideal)) WK 289 (rest := (KernelIdeal.Tail.ks3 (F := Ideal)).drop 290) (wrest := KernelIdeal.Tail.wr_ks3.drop 290) (y := KernelIdeal.main_c_241) rfl rfl (by decide +kernel)
  have eR := final_nullary (ReferenceIdeal.Hand.writes_tlOps3 (F := Ideal)) WR 284 (rest := (ReferenceIdeal.Hand.tlOps3 (F := Ideal)).drop 285) (wrest := ReferenceIdeal.Hand.wr_tlOps3.drop 285) (y := ReferenceIdeal.main_c_260) rfl rfl (by decide +kernel)
  rw [eK, eR]
  try rfl
theorem h285 : StableHlo.after (KernelIdeal.Tail.ks3 (F := Ideal)) WK (Proc.devRef .tc KernelIdeal.main_v611) = StableHlo.after (ReferenceIdeal.Hand.tlOps3 (F := Ideal)) WR (Proc.devRef .tc ReferenceIdeal.main_v702) :=
  by
  have eK := final_unary (KernelIdeal.Tail.writes_ks3 (F := Ideal)) WK 290 (rest := (KernelIdeal.Tail.ks3 (F := Ideal)).drop 291) (wrest := KernelIdeal.Tail.wr_ks3.drop 291) (y := KernelIdeal.main_v611) (x := KernelIdeal.main_c_241) rfl rfl (by decide +kernel) (by decide +kernel)
  have eR := final_unary (ReferenceIdeal.Hand.writes_tlOps3 (F := Ideal)) WR 285 (rest := (ReferenceIdeal.Hand.tlOps3 (F := Ideal)).drop 286) (wrest := ReferenceIdeal.Hand.wr_tlOps3.drop 286) (y := ReferenceIdeal.main_v702) (x := ReferenceIdeal.main_c_260) rfl rfl (by decide +kernel) (by decide +kernel)
  rw [eK, eR, h284 WK WR hP hLin hVal]
  try rfl
theorem h286 : StableHlo.after (KernelIdeal.Tail.ks3 (F := Ideal)) WK (Proc.devRef .tc KernelIdeal.main_v612) = StableHlo.after (ReferenceIdeal.Hand.tlOps3 (F := Ideal)) WR (Proc.devRef .tc ReferenceIdeal.main_v703) :=
  by
  have eK := final_binary (KernelIdeal.Tail.writes_ks3 (F := Ideal)) WK 291 (rest := (KernelIdeal.Tail.ks3 (F := Ideal)).drop 292) (wrest := KernelIdeal.Tail.wr_ks3.drop 292) (y := KernelIdeal.main_v612) (a := KernelIdeal.main_v611) (b := KernelIdeal.main_v610) rfl rfl (by decide +kernel) (by decide +kernel) (by decide +kernel)
  have eR := final_binary (ReferenceIdeal.Hand.writes_tlOps3 (F := Ideal)) WR 286 (rest := (ReferenceIdeal.Hand.tlOps3 (F := Ideal)).drop 287) (wrest := ReferenceIdeal.Hand.wr_tlOps3.drop 287) (y := ReferenceIdeal.main_v703) (a := ReferenceIdeal.main_v702) (b := ReferenceIdeal.main_v701) rfl rfl (by decide +kernel) (by decide +kernel) (by decide +kernel)
  rw [eK, eR, h285 WK WR hP hLin hVal, h283 WK WR hP hLin hVal]
  try rfl

end Walk

end Cert.Bridge.Fast3

namespace Cert.Bridge
open Idealize.ShloMosaic Idealize.ShloMosaic.TcCoe Idealize.SL.Sem Idealize.ShloMosaic.StableHlo Cert.Lock

/-- Batch 3, by the walk in step: the three inputs agree at the end of the two lists (the points and the reference's
    cell ids and mask are inputs, never written; the kernel program's cell ids and mask are its five leading operations),
    and the three outputs are lines 144, 150, 286 of the walk. -/
theorem batch3' (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v55) = WR (Proc.devRef .tc Cert.ReferenceIdeal.main_v541))
    (hl : (fun i => shapeCast (Cert.KernelIdeal.main_v477 : Ref Cert.KernelIdeal.sig .tc).ty.shape
            (extractStridedSlice Cert.KernelIdeal.S1x300000 ![3, 0] (WK (Proc.devRef .tc Cert.KernelIdeal.main_v64)) Cert.KernelIdeal.Facts₀.slices_S4x300000_S1x300000_3_0)
            Cert.KernelIdeal.Facts₀.shapeCasts_S1x300000_S300000 i) = WR (Proc.devRef .tc Cert.ReferenceIdeal.main_v570))
    (hv : cmpi .ne (WR (Proc.devRef .tc Cert.ReferenceIdeal.main_v570)) (broadcastInDim Cert.KernelIdeal.S300000 ![] Cert.KernelIdeal.Facts₀.bcast_S_S300000 (constantI Cert.KernelIdeal.S_ 32 262144#32))
            = WR (Proc.devRef .tc Cert.ReferenceIdeal.main_v557)) :
    StableHlo.after (Cert.KernelIdeal.Tail.ks3 (F := Ideal)) WK (Proc.devRef .tc Cert.KernelIdeal.main_v571)
        = StableHlo.after (Cert.ReferenceIdeal.Hand.tlOps3 (F := Ideal)) WR (Proc.devRef .tc Cert.ReferenceIdeal.main_v662)
    ∧ StableHlo.after (Cert.KernelIdeal.Tail.ks3 (F := Ideal)) WK (Proc.devRef .tc Cert.KernelIdeal.main_v576)
        = StableHlo.after (Cert.ReferenceIdeal.Hand.tlOps3 (F := Ideal)) WR (Proc.devRef .tc Cert.ReferenceIdeal.main_v667)
    ∧ StableHlo.after (Cert.KernelIdeal.Tail.ks3 (F := Ideal)) WK (Proc.devRef .tc Cert.KernelIdeal.main_v612)
        = StableHlo.after (Cert.ReferenceIdeal.Hand.tlOps3 (F := Ideal)) WR (Proc.devRef .tc Cert.ReferenceIdeal.main_v703) := by
  have kP : StableHlo.after (KernelIdeal.Tail.ks3 (F := Ideal)) WK (Proc.devRef .tc KernelIdeal.main_v55) = WK (Proc.devRef .tc KernelIdeal.main_v55) := keep_key (KernelIdeal.Tail.writes_ks3 (F := Ideal)) WK _ (by decide +kernel)
  have k64 : StableHlo.after (KernelIdeal.Tail.ks3 (F := Ideal)) WK (Proc.devRef .tc KernelIdeal.main_v64) = WK (Proc.devRef .tc KernelIdeal.main_v64) := keep_key (KernelIdeal.Tail.writes_ks3 (F := Ideal)) WK _ (by decide +kernel)
  have rP : StableHlo.after (ReferenceIdeal.Hand.tlOps3 (F := Ideal)) WR (Proc.devRef .tc ReferenceIdeal.main_v541) = WR (Proc.devRef .tc ReferenceIdeal.main_v541) := keep_key (ReferenceIdeal.Hand.writes_tlOps3 (F := Ideal)) WR _ (by decide +kernel)
  have rL : StableHlo.after (ReferenceIdeal.Hand.tlOps3 (F := Ideal)) WR (Proc.devRef .tc ReferenceIdeal.main_v570) = WR (Proc.devRef .tc ReferenceIdeal.main_v570) := keep_key (ReferenceIdeal.Hand.writes_tlOps3 (F := Ideal)) WR _ (by decide +kernel)
  have rV : StableHlo.after (ReferenceIdeal.Hand.tlOps3 (F := Ideal)) WR (Proc.devRef .tc ReferenceIdeal.main_v557) = WR (Proc.devRef .tc ReferenceIdeal.main_v557) := keep_key (ReferenceIdeal.Hand.writes_tlOps3 (F := Ideal)) WR _ (by decide +kernel)
  have e65 := final_unary (KernelIdeal.Tail.writes_ks3 (F := Ideal)) WK 0 (rest := (KernelIdeal.Tail.ks3 (F := Ideal)).drop 1) (wrest := KernelIdeal.Tail.wr_ks3.drop 1) (y := KernelIdeal.main_v476) (x := KernelIdeal.main_v64) rfl rfl (by decide +kernel) (by decide +kernel)
  have e66 := final_reshape (KernelIdeal.Tail.writes_ks3 (F := Ideal)) WK 1 (rest := (KernelIdeal.Tail.ks3 (F := Ideal)).drop 2) (wrest := KernelIdeal.Tail.wr_ks3.drop 2) (y := KernelIdeal.main_v477) (x := KernelIdeal.main_v476) rfl rfl (by decide +kernel) (by decide +kernel)
  have ec := final_nullary (KernelIdeal.Tail.writes_ks3 (F := Ideal)) WK 2 (rest := (KernelIdeal.Tail.ks3 (F := Ideal)).drop 3) (wrest := KernelIdeal.Tail.wr_ks3.drop 3) (y := KernelIdeal.main_c_190) rfl rfl (by decide +kernel)
  have e67 := final_unary (KernelIdeal.Tail.writes_ks3 (F := Ideal)) WK 3 (rest := (KernelIdeal.Tail.ks3 (F := Ideal)).drop 4) (wrest := KernelIdeal.Tail.wr_ks3.drop 4) (y := KernelIdeal.main_v478) (x := KernelIdeal.main_c_190) rfl rfl (by decide +kernel) (by decide +kernel)
  have e68 := final_binary (KernelIdeal.Tail.writes_ks3 (F := Ideal)) WK 4 (rest := (KernelIdeal.Tail.ks3 (F := Ideal)).drop 5) (wrest := KernelIdeal.Tail.wr_ks3.drop 5) (y := KernelIdeal.main_v479) (a := KernelIdeal.main_v477) (b := KernelIdeal.main_v478) rfl rfl (by decide +kernel) (by decide +kernel) (by decide +kernel)
  have eP : StableHlo.after (KernelIdeal.Tail.ks3 (F := Ideal)) WK (Proc.devRef .tc KernelIdeal.main_v55) = StableHlo.after (ReferenceIdeal.Hand.tlOps3 (F := Ideal)) WR (Proc.devRef .tc ReferenceIdeal.main_v541) := kP.trans (hp.trans rP.symm)
  have eLin : StableHlo.after (KernelIdeal.Tail.ks3 (F := Ideal)) WK (Proc.devRef .tc KernelIdeal.main_v477) = StableHlo.after (ReferenceIdeal.Hand.tlOps3 (F := Ideal)) WR (Proc.devRef .tc ReferenceIdeal.main_v570) := by
    rw [e66, e65, k64, rL]; exact hl
  have eVal : StableHlo.after (KernelIdeal.Tail.ks3 (F := Ideal)) WK (Proc.devRef .tc KernelIdeal.main_v479) = StableHlo.after (ReferenceIdeal.Hand.tlOps3 (F := Ideal)) WR (Proc.devRef .tc ReferenceIdeal.main_v557) := by
    rw [e68, eLin, e67, ec, rL, rV]; exact hv
  exact ⟨Fast3.h144 WK WR eP eLin eVal, Fast3.h150 WK WR eP eLin eVal, Fast3.h286 WK WR eP eLin eVal⟩

end Cert.Bridge
end
-- ==== Proof.BridgeBatch3.lean ====
import proofs.«111982_j16939351015723_2_alg».proof.Proof.BatchFast3

/-! Batch 3 of four: the operations that follow the cell ids are the same on both sides. -/

set_option maxRecDepth 16384

noncomputable section
namespace Cert.Bridge
open Idealize.ShloMosaic Idealize.ShloMosaic.TcCoe Idealize.SL.Sem Idealize.ShloMosaic.StableHlo

/-- Batch 3: from equal points, cell ids and validity mask, the kernel program's operations after the cell ids and the
    reference's leave equal voxels, point counts and coordinates (they are the same operations in the same order). -/
theorem batch3 (WK : Valuation Cert.KernelIdeal.τ Cert.KernelIdeal.sig (Elt Ideal)) (WR : Valuation Cert.ReferenceIdeal.τ Cert.ReferenceIdeal.sig (Elt Ideal))
    (hp : WK (Proc.devRef .tc Cert.KernelIdeal.main_v55) = WR (Proc.devRef .tc Cert.ReferenceIdeal.main_v541))
    (hl : (fun i => shapeCast (Cert.KernelIdeal.main_v477 : Ref Cert.KernelIdeal.sig .tc).ty.shape
            (extractStridedSlice Cert.KernelIdeal.S1x300000 ![3, 0] (WK (Proc.devRef .tc Cert.KernelIdeal.main_v64)) Cert.KernelIdeal.Facts₀.slices_S4x300000_S1x300000_3_0)
            Cert.KernelIdeal.Facts₀.shapeCasts_S1x300000_S300000 i) = WR (Proc.devRef .tc Cert.ReferenceIdeal.main_v570))
    (hv : cmpi .ne (WR (Proc.devRef .tc Cert.ReferenceIdeal.main_v570)) (broadcastInDim Cert.KernelIdeal.S300000 ![] Cert.KernelIdeal.Facts₀.bcast_S_S300000 (constantI Cert.KernelIdeal.S_ 32 262144#32))
            = WR (Proc.devRef .tc Cert.ReferenceIdeal.main_v557)) :
    StableHlo.after (Cert.KernelIdeal.Tail.ks3 (F := Ideal)) WK (Proc.devRef .tc Cert.KernelIdeal.main_v571)
        = StableHlo.after (Cert.ReferenceIdeal.Hand.tlOps3 (F := Ideal)) WR (Proc.devRef .tc Cert.ReferenceIdeal.main_v662)
    ∧ StableHlo.after (Cert.KernelIdeal.Tail.ks3 (F := Ideal)) WK (Proc.devRef .tc Cert.KernelIdeal.main_v576)
        = StableHlo.after (Cert.ReferenceIdeal.Hand.tlOps3 (F := Ideal)) WR (Proc.devRef .tc Cert.ReferenceIdeal.main_v667)
    ∧ StableHlo.after (Cert.KernelIdeal.Tail.ks3 (F := Ideal)) WK (Proc.devRef .tc Cert.KernelIdeal.main_v612)
        = StableHlo.after (Cert.ReferenceIdeal.Hand.tlOps3 (F := Ideal)) WR (Proc.devRef .tc Cert.ReferenceIdeal.main_v703) := by
  exact batch3' WK WR hp hl hv

end Cert.Bridge
end
-- ==== Proof.BridgeStepCore.lean ====
/-
  One batch of the value proof, from the readings of the reference's cell-id stretch.

  For batch I the kernel program's contents BK hold the batch's point array p and, as row I of the array the kernel
  wrote (reshaped from Y), the cell id of every point; the reference, run from contents BR through its point stretch
  and its cell-id stretch, computes the same p, and its cell-id stretch reads from p the cell ids linR p and the
  validity mask validR p. The point array is not written by the cell-id stretch, so it is still p after it; the
  kernel's row equals linR p by hypothesis; and the mask is recovered from the ids as "id ≠ 262144". These are the
  three hypotheses under which the operations after the cell ids agree on both sides, which gives the batch's
  voxels, point counts and coordinates equal.
-/
import proofs.«111982_j16939351015723_2_alg».proof.Proof.BridgeBatch0
import proofs.«111982_j16939351015723_2_alg».proof.Proof.BridgeBatch1
import proofs.«111982_j16939351015723_2_alg».proof.Proof.BridgeBatch2
import proofs.«111982_j16939351015723_2_alg».proof.Proof.BridgeBatch3
import proofs.«111982_j16939351015723_2_alg».proof.Proof.LinSpec
import proofs.«111982_j16939351015723_2_alg».proof.Proof.KeepR

set_option maxRecDepth 16384

noncomputable section

namespace Cert.Bridge

open Idealize.ShloMosaic Idealize.ShloMosaic.StableHlo

/-- Batch 0, from the two readings of the reference's cell-id stretch: the kernel program holds the batch's points
    and, as row 0 of the kernel's output, their cell ids; the reference computes the same points, reads the same cell
    ids from them, and its validity mask is "cell id ≠ 262144"; so the operations after the cell ids agree. -/
theorem step0_core (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v13) = p)
    (hRp : StableHlo.after (Cert.ReferenceIdeal.Hand.ptsOps0 (F := Ideal)) BR (Proc.devRef .tc Cert.ReferenceIdeal.main_v13) = p)
    (hrow : (fun i => shapeCast (Cert.KernelIdeal.main_v66 : Ref Cert.KernelIdeal.sig .tc).ty.shape
            (extractStridedSlice Cert.KernelIdeal.S1x300000 ![0, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_0_0)
            Cert.KernelIdeal.Facts₀.shapeCasts_S1x300000_S300000 i) = Cert.Lin.linR p)
    (hlin : (StableHlo.after (Cert.ReferenceIdeal.Hand.linOps0 (F := Ideal)) (StableHlo.after (Cert.ReferenceIdeal.Hand.ptsOps0 (F := Ideal)) BR)) (Proc.devRef .tc Cert.ReferenceIdeal.main_v42) = Cert.Lin.linR ((StableHlo.after (Cert.ReferenceIdeal.Hand.ptsOps0 (F := Ideal)) BR) (Proc.devRef .tc Cert.ReferenceIdeal.main_v13)))
    (hval : (StableHlo.after (Cert.ReferenceIdeal.Hand.linOps0 (F := Ideal)) (StableHlo.after (Cert.ReferenceIdeal.Hand.ptsOps0 (F := Ideal)) BR)) (Proc.devRef .tc Cert.ReferenceIdeal.main_v29) = Cert.Lin.validR ((StableHlo.after (Cert.ReferenceIdeal.Hand.ptsOps0 (F := Ideal)) BR) (Proc.devRef .tc Cert.ReferenceIdeal.main_v13))) :
    StableHlo.after (Cert.KernelIdeal.Tail.ks0 (F := Ideal)) BK (Proc.devRef .tc Cert.KernelIdeal.main_v160)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v134)
    ∧ StableHlo.after (Cert.KernelIdeal.Tail.ks0 (F := Ideal)) BK (Proc.devRef .tc Cert.KernelIdeal.main_v165)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v139)
    ∧ StableHlo.after (Cert.KernelIdeal.Tail.ks0 (F := Ideal)) BK (Proc.devRef .tc Cert.KernelIdeal.main_v201)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v175) := by
  have hp : BK (Proc.devRef .tc Cert.KernelIdeal.main_v13) = (StableHlo.after (Cert.ReferenceIdeal.Hand.linOps0 (F := Ideal)) (StableHlo.after (Cert.ReferenceIdeal.Hand.ptsOps0 (F := Ideal)) BR)) (Proc.devRef .tc Cert.ReferenceIdeal.main_v13) :=
    hKp.trans (((Cert.ReferenceIdeal.Hand.keep_linOps0 (StableHlo.after (Cert.ReferenceIdeal.Hand.ptsOps0 (F := Ideal)) BR) Cert.ReferenceIdeal.main_v13 (by decide)).trans hRp).symm)
  have hl : (fun i => shapeCast (Cert.KernelIdeal.main_v66 : Ref Cert.KernelIdeal.sig .tc).ty.shape
            (extractStridedSlice Cert.KernelIdeal.S1x300000 ![0, 0] (BK (Proc.devRef .tc Cert.KernelIdeal.main_v64)) Cert.KernelIdeal.Facts₀.slices_S4x300000_S1x300000_0_0)
            Cert.KernelIdeal.Facts₀.shapeCasts_S1x300000_S300000 i) = (StableHlo.after (Cert.ReferenceIdeal.Hand.linOps0 (F := Ideal)) (StableHlo.after (Cert.ReferenceIdeal.Hand.ptsOps0 (F := Ideal)) BR)) (Proc.devRef .tc Cert.ReferenceIdeal.main_v42) := by
    rw [hK64, hrow, hlin, hRp]
  have hv : cmpi .ne ((StableHlo.after (Cert.ReferenceIdeal.Hand.linOps0 (F := Ideal)) (StableHlo.after (Cert.ReferenceIdeal.Hand.ptsOps0 (F := Ideal)) BR)) (Proc.devRef .tc Cert.ReferenceIdeal.main_v42)) (broadcastInDim Cert.KernelIdeal.S300000 ![] Cert.KernelIdeal.Facts₀.bcast_S_S300000 (constantI Cert.KernelIdeal.S_ 32 262144#32))
      = (StableHlo.after (Cert.ReferenceIdeal.Hand.linOps0 (F := Ideal)) (StableHlo.after (Cert.ReferenceIdeal.Hand.ptsOps0 (F := Ideal)) BR)) (Proc.devRef .tc Cert.ReferenceIdeal.main_v29) := by
    rw [hlin, hval, hRp]; exact Cert.Lin.valid_eq_fun p
  exact Cert.Bridge.batch0 BK (StableHlo.after (Cert.ReferenceIdeal.Hand.linOps0 (F := Ideal)) (StableHlo.after (Cert.ReferenceIdeal.Hand.ptsOps0 (F := Ideal)) BR)) hp hl hv

/-- Batch 1, from the two readings of the reference's cell-id stretch: the kernel program holds the batch's points
    and, as row 1 of the kernel's output, their cell ids; the reference computes the same points, reads the same cell
    ids from them, and its validity mask is "cell id ≠ 262144"; so the operations after the cell ids agree. -/
theorem step1_core (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v27) = p)
    (hRp : StableHlo.after (Cert.ReferenceIdeal.Hand.ptsOps1 (F := Ideal)) BR (Proc.devRef .tc Cert.ReferenceIdeal.main_v189) = p)
    (hrow : (fun i => shapeCast (Cert.KernelIdeal.main_v203 : Ref Cert.KernelIdeal.sig .tc).ty.shape
            (extractStridedSlice Cert.KernelIdeal.S1x300000 ![1, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_1_0)
            Cert.KernelIdeal.Facts₀.shapeCasts_S1x300000_S300000 i) = Cert.Lin.linR p)
    (hlin : (StableHlo.after (Cert.ReferenceIdeal.Hand.linOps1 (F := Ideal)) (StableHlo.after (Cert.ReferenceIdeal.Hand.ptsOps1 (F := Ideal)) BR)) (Proc.devRef .tc Cert.ReferenceIdeal.main_v218) = Cert.Lin.linR ((StableHlo.after (Cert.ReferenceIdeal.Hand.ptsOps1 (F := Ideal)) BR) (Proc.devRef .tc Cert.ReferenceIdeal.main_v189)))
    (hval : (StableHlo.after (Cert.ReferenceIdeal.Hand.linOps1 (F := Ideal)) (StableHlo.after (Cert.ReferenceIdeal.Hand.ptsOps1 (F := Ideal)) BR)) (Proc.devRef .tc Cert.ReferenceIdeal.main_v205) = Cert.Lin.validR ((StableHlo.after (Cert.ReferenceIdeal.Hand.ptsOps1 (F := Ideal)) BR) (Proc.devRef .tc Cert.ReferenceIdeal.main_v189))) :
    StableHlo.after (Cert.KernelIdeal.Tail.ks1 (F := Ideal)) BK (Proc.devRef .tc Cert.KernelIdeal.main_v297)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v310)
    ∧ StableHlo.after (Cert.KernelIdeal.Tail.ks1 (F := Ideal)) BK (Proc.devRef .tc Cert.KernelIdeal.main_v302)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v315)
    ∧ StableHlo.after (Cert.KernelIdeal.Tail.ks1 (F := Ideal)) BK (Proc.devRef .tc Cert.KernelIdeal.main_v338)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v351) := by
  have hp : BK (Proc.devRef .tc Cert.KernelIdeal.main_v27) = (StableHlo.after (Cert.ReferenceIdeal.Hand.linOps1 (F := Ideal)) (StableHlo.after (Cert.ReferenceIdeal.Hand.ptsOps1 (F := Ideal)) BR)) (Proc.devRef .tc Cert.ReferenceIdeal.main_v189) :=
    hKp.trans (((Cert.ReferenceIdeal.Hand.keep_linOps1 (StableHlo.after (Cert.ReferenceIdeal.Hand.ptsOps1 (F := Ideal)) BR) Cert.ReferenceIdeal.main_v189 (by decide)).trans hRp).symm)
  have hl : (fun i => shapeCast (Cert.KernelIdeal.main_v203 : Ref Cert.KernelIdeal.sig .tc).ty.shape
            (extractStridedSlice Cert.KernelIdeal.S1x300000 ![1, 0] (BK (Proc.devRef .tc Cert.KernelIdeal.main_v64)) Cert.KernelIdeal.Facts₀.slices_S4x300000_S1x300000_1_0)
            Cert.KernelIdeal.Facts₀.shapeCasts_S1x300000_S300000 i) = (StableHlo.after (Cert.ReferenceIdeal.Hand.linOps1 (F := Ideal)) (StableHlo.after (Cert.ReferenceIdeal.Hand.ptsOps1 (F := Ideal)) BR)) (Proc.devRef .tc Cert.ReferenceIdeal.main_v218) := by
    rw [hK64, hrow, hlin, hRp]
  have hv : cmpi .ne ((StableHlo.after (Cert.ReferenceIdeal.Hand.linOps1 (F := Ideal)) (StableHlo.after (Cert.ReferenceIdeal.Hand.ptsOps1 (F := Ideal)) BR)) (Proc.devRef .tc Cert.ReferenceIdeal.main_v218)) (broadcastInDim Cert.KernelIdeal.S300000 ![] Cert.KernelIdeal.Facts₀.bcast_S_S300000 (constantI Cert.KernelIdeal.S_ 32 262144#32))
      = (StableHlo.after (Cert.ReferenceIdeal.Hand.linOps1 (F := Ideal)) (StableHlo.after (Cert.ReferenceIdeal.Hand.ptsOps1 (F := Ideal)) BR)) (Proc.devRef .tc Cert.ReferenceIdeal.main_v205) := by
    rw [hlin, hval, hRp]; exact Cert.Lin.valid_eq_fun p
  exact Cert.Bridge.batch1 BK (StableHlo.after (Cert.ReferenceIdeal.Hand.linOps1 (F := Ideal)) (StableHlo.after (Cert.ReferenceIdeal.Hand.ptsOps1 (F := Ideal)) BR)) hp hl hv

/-- Batch 2, from the two readings of the reference's cell-id stretch: the kernel program holds the batch's points
    and, as row 2 of the kernel's output, their cell ids; the reference computes the same points, reads the same cell
    ids from them, and its validity mask is "cell id ≠ 262144"; so the operations after the cell ids agree. -/
theorem step2_core (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v41) = p)
    (hRp : StableHlo.after (Cert.ReferenceIdeal.Hand.ptsOps2 (F := Ideal)) BR (Proc.devRef .tc Cert.ReferenceIdeal.main_v365) = p)
    (hrow : (fun i => shapeCast (Cert.KernelIdeal.main_v340 : Ref Cert.KernelIdeal.sig .tc).ty.shape
            (extractStridedSlice Cert.KernelIdeal.S1x300000 ![2, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_2_0)
            Cert.KernelIdeal.Facts₀.shapeCasts_S1x300000_S300000 i) = Cert.Lin.linR p)
    (hlin : (StableHlo.after (Cert.ReferenceIdeal.Hand.linOps2 (F := Ideal)) (StableHlo.after (Cert.ReferenceIdeal.Hand.ptsOps2 (F := Ideal)) BR)) (Proc.devRef .tc Cert.ReferenceIdeal.main_v394) = Cert.Lin.linR ((StableHlo.after (Cert.ReferenceIdeal.Hand.ptsOps2 (F := Ideal)) BR) (Proc.devRef .tc Cert.ReferenceIdeal.main_v365)))
    (hval : (StableHlo.after (Cert.ReferenceIdeal.Hand.linOps2 (F := Ideal)) (StableHlo.after (Cert.ReferenceIdeal.Hand.ptsOps2 (F := Ideal)) BR)) (Proc.devRef .tc Cert.ReferenceIdeal.main_v381) = Cert.Lin.validR ((StableHlo.after (Cert.ReferenceIdeal.Hand.ptsOps2 (F := Ideal)) BR) (Proc.devRef .tc Cert.ReferenceIdeal.main_v365))) :
    StableHlo.after (Cert.KernelIdeal.Tail.ks2 (F := Ideal)) BK (Proc.devRef .tc Cert.KernelIdeal.main_v434)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v486)
    ∧ StableHlo.after (Cert.KernelIdeal.Tail.ks2 (F := Ideal)) BK (Proc.devRef .tc Cert.KernelIdeal.main_v439)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v491)
    ∧ StableHlo.after (Cert.KernelIdeal.Tail.ks2 (F := Ideal)) BK (Proc.devRef .tc Cert.KernelIdeal.main_v475)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v527) := by
  have hp : BK (Proc.devRef .tc Cert.KernelIdeal.main_v41) = (StableHlo.after (Cert.ReferenceIdeal.Hand.linOps2 (F := Ideal)) (StableHlo.after (Cert.ReferenceIdeal.Hand.ptsOps2 (F := Ideal)) BR)) (Proc.devRef .tc Cert.ReferenceIdeal.main_v365) :=
    hKp.trans (((Cert.ReferenceIdeal.Hand.keep_linOps2 (StableHlo.after (Cert.ReferenceIdeal.Hand.ptsOps2 (F := Ideal)) BR) Cert.ReferenceIdeal.main_v365 (by decide)).trans hRp).symm)
  have hl : (fun i => shapeCast (Cert.KernelIdeal.main_v340 : Ref Cert.KernelIdeal.sig .tc).ty.shape
            (extractStridedSlice Cert.KernelIdeal.S1x300000 ![2, 0] (BK (Proc.devRef .tc Cert.KernelIdeal.main_v64)) Cert.KernelIdeal.Facts₀.slices_S4x300000_S1x300000_2_0)
            Cert.KernelIdeal.Facts₀.shapeCasts_S1x300000_S300000 i) = (StableHlo.after (Cert.ReferenceIdeal.Hand.linOps2 (F := Ideal)) (StableHlo.after (Cert.ReferenceIdeal.Hand.ptsOps2 (F := Ideal)) BR)) (Proc.devRef .tc Cert.ReferenceIdeal.main_v394) := by
    rw [hK64, hrow, hlin, hRp]
  have hv : cmpi .ne ((StableHlo.after (Cert.ReferenceIdeal.Hand.linOps2 (F := Ideal)) (StableHlo.after (Cert.ReferenceIdeal.Hand.ptsOps2 (F := Ideal)) BR)) (Proc.devRef .tc Cert.ReferenceIdeal.main_v394)) (broadcastInDim Cert.KernelIdeal.S300000 ![] Cert.KernelIdeal.Facts₀.bcast_S_S300000 (constantI Cert.KernelIdeal.S_ 32 262144#32))
      = (StableHlo.after (Cert.ReferenceIdeal.Hand.linOps2 (F := Ideal)) (StableHlo.after (Cert.ReferenceIdeal.Hand.ptsOps2 (F := Ideal)) BR)) (Proc.devRef .tc Cert.ReferenceIdeal.main_v381) := by
    rw [hlin, hval, hRp]; exact Cert.Lin.valid_eq_fun p
  exact Cert.Bridge.batch2 BK (StableHlo.after (Cert.ReferenceIdeal.Hand.linOps2 (F := Ideal)) (StableHlo.after (Cert.ReferenceIdeal.Hand.ptsOps2 (F := Ideal)) BR)) hp hl hv

/-- Batch 3, from the two readings of the reference's cell-id stretch: the kernel program holds the batch's points
    and, as row 3 of the kernel's output, their cell ids; the reference computes the same points, reads the same cell
    ids from them, and its validity mask is "cell id ≠ 262144"; so the operations after the cell ids agree. -/
theorem step3_core (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v55) = p)
    (hRp : StableHlo.after (Cert.ReferenceIdeal.Hand.ptsOps3 (F := Ideal)) BR (Proc.devRef .tc Cert.ReferenceIdeal.main_v541) = p)
    (hrow : (fun i => shapeCast (Cert.KernelIdeal.main_v477 : Ref Cert.KernelIdeal.sig .tc).ty.shape
            (extractStridedSlice Cert.KernelIdeal.S1x300000 ![3, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_3_0)
            Cert.KernelIdeal.Facts₀.shapeCasts_S1x300000_S300000 i) = Cert.Lin.linR p)
    (hlin : (StableHlo.after (Cert.ReferenceIdeal.Hand.linOps3 (F := Ideal)) (StableHlo.after (Cert.ReferenceIdeal.Hand.ptsOps3 (F := Ideal)) BR)) (Proc.devRef .tc Cert.ReferenceIdeal.main_v570) = Cert.Lin.linR ((StableHlo.after (Cert.ReferenceIdeal.Hand.ptsOps3 (F := Ideal)) BR) (Proc.devRef .tc Cert.ReferenceIdeal.main_v541)))
    (hval : (StableHlo.after (Cert.ReferenceIdeal.Hand.linOps3 (F := Ideal)) (StableHlo.after (Cert.ReferenceIdeal.Hand.ptsOps3 (F := Ideal)) BR)) (Proc.devRef .tc Cert.ReferenceIdeal.main_v557) = Cert.Lin.validR ((StableHlo.after (Cert.ReferenceIdeal.Hand.ptsOps3 (F := Ideal)) BR) (Proc.devRef .tc Cert.ReferenceIdeal.main_v541))) :
    StableHlo.after (Cert.KernelIdeal.Tail.ks3 (F := Ideal)) BK (Proc.devRef .tc Cert.KernelIdeal.main_v571)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v662)
    ∧ StableHlo.after (Cert.KernelIdeal.Tail.ks3 (F := Ideal)) BK (Proc.devRef .tc Cert.KernelIdeal.main_v576)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v667)
    ∧ StableHlo.after (Cert.KernelIdeal.Tail.ks3 (F := Ideal)) BK (Proc.devRef .tc Cert.KernelIdeal.main_v612)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v703) := by
  have hp : BK (Proc.devRef .tc Cert.KernelIdeal.main_v55) = (StableHlo.after (Cert.ReferenceIdeal.Hand.linOps3 (F := Ideal)) (StableHlo.after (Cert.ReferenceIdeal.Hand.ptsOps3 (F := Ideal)) BR)) (Proc.devRef .tc Cert.ReferenceIdeal.main_v541) :=
    hKp.trans (((Cert.ReferenceIdeal.Hand.keep_linOps3 (StableHlo.after (Cert.ReferenceIdeal.Hand.ptsOps3 (F := Ideal)) BR) Cert.ReferenceIdeal.main_v541 (by decide)).trans hRp).symm)
  have hl : (fun i => shapeCast (Cert.KernelIdeal.main_v477 : Ref Cert.KernelIdeal.sig .tc).ty.shape
            (extractStridedSlice Cert.KernelIdeal.S1x300000 ![3, 0] (BK (Proc.devRef .tc Cert.KernelIdeal.main_v64)) Cert.KernelIdeal.Facts₀.slices_S4x300000_S1x300000_3_0)
            Cert.KernelIdeal.Facts₀.shapeCasts_S1x300000_S300000 i) = (StableHlo.after (Cert.ReferenceIdeal.Hand.linOps3 (F := Ideal)) (StableHlo.after (Cert.ReferenceIdeal.Hand.ptsOps3 (F := Ideal)) BR)) (Proc.devRef .tc Cert.ReferenceIdeal.main_v570) := by
    rw [hK64, hrow, hlin, hRp]
  have hv : cmpi .ne ((StableHlo.after (Cert.ReferenceIdeal.Hand.linOps3 (F := Ideal)) (StableHlo.after (Cert.ReferenceIdeal.Hand.ptsOps3 (F := Ideal)) BR)) (Proc.devRef .tc Cert.ReferenceIdeal.main_v570)) (broadcastInDim Cert.KernelIdeal.S300000 ![] Cert.KernelIdeal.Facts₀.bcast_S_S300000 (constantI Cert.KernelIdeal.S_ 32 262144#32))
      = (StableHlo.after (Cert.ReferenceIdeal.Hand.linOps3 (F := Ideal)) (StableHlo.after (Cert.ReferenceIdeal.Hand.ptsOps3 (F := Ideal)) BR)) (Proc.devRef .tc Cert.ReferenceIdeal.main_v557) := by
    rw [hlin, hval, hRp]; exact Cert.Lin.valid_eq_fun p
  exact Cert.Bridge.batch3 BK (StableHlo.after (Cert.ReferenceIdeal.Hand.linOps3 (F := Ideal)) (StableHlo.after (Cert.ReferenceIdeal.Hand.ptsOps3 (F := Ideal)) BR)) hp hl hv

end Cert.Bridge

end
-- ==== Proof.BridgeStep.lean ====
/-
  One batch of the value proof.

  The reference's cell-id stretch reads three constants written before the batches (the grid's origin, the cells'
  extents, the grid's dimensions). The batch's point stretch writes none of them, so after it they are what they
  were before it, and the two readings of the cell-id stretch (the cell ids and the validity mask as functions of
  the point array) hold at the contents the point stretch leaves. With them the batch's step follows.
-/
import proofs.«111982_j16939351015723_2_alg».proof.Proof.BridgeStepCore
import proofs.«111982_j16939351015723_2_alg».proof.Proof.LinReadR

set_option maxRecDepth 16384

noncomputable section

namespace Cert.Bridge

open Idealize.ShloMosaic Idealize.ShloMosaic.StableHlo

/-- Batch 0: the three constants the reference's cell-id stretch reads are not written by the batch's point stretch, so
    that stretch reads them as they were; its two readings then give the step. -/
theorem step0 (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v13) = p)
    (hRp : StableHlo.after (Cert.ReferenceIdeal.Hand.ptsOps0 (F := Ideal)) BR (Proc.devRef .tc Cert.ReferenceIdeal.main_v13) = p)
    (hrow : (fun i => shapeCast (Cert.KernelIdeal.main_v66 : Ref Cert.KernelIdeal.sig .tc).ty.shape
            (extractStridedSlice Cert.KernelIdeal.S1x300000 ![0, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_0_0)
            Cert.KernelIdeal.Facts₀.shapeCasts_S1x300000_S300000 i) = Cert.Lin.linR p)
    (hc : BR (Proc.devRef .tc Cert.ReferenceIdeal.main_cst) = fun i => FloatOps.ofBits (F := Ideal) .f32 (Cert.ReferenceIdeal.lit0 (Cert.ReferenceIdeal.S3.rowMajor i)))
    (hc0 : BR (Proc.devRef .tc Cert.ReferenceIdeal.main_cst_0) = fun i => FloatOps.ofBits (F := Ideal) .f32 (Cert.ReferenceIdeal.lit1 (Cert.ReferenceIdeal.S3.rowMajor i)))
    (hc2 : BR (Proc.devRef .tc Cert.ReferenceIdeal.main_c) = fun i => Cert.ReferenceIdeal.lit2 (Cert.ReferenceIdeal.S3.rowMajor i)) :
    StableHlo.after (Cert.KernelIdeal.Tail.ks0 (F := Ideal)) BK (Proc.devRef .tc Cert.KernelIdeal.main_v160)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v134)
    ∧ StableHlo.after (Cert.KernelIdeal.Tail.ks0 (F := Ideal)) BK (Proc.devRef .tc Cert.KernelIdeal.main_v165)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v139)
    ∧ StableHlo.after (Cert.KernelIdeal.Tail.ks0 (F := Ideal)) BK (Proc.devRef .tc Cert.KernelIdeal.main_v201)
        = StableHlo.after (Cert.ReferenceIdeal.Hand.tlOps0 (F := Ideal)) (StableHlo.after (Cert.ReferenceIdeal.Hand.linOps0 (F := Ideal)) (StableHlo.after (Cert.ReferenceIdeal.Hand.ptsOps0 (F := Ideal)) BR)) (Proc.devRef .tc Cert.ReferenceIdeal.main_v175) :=
  step0_core BK BR Y p hK64 hKp hRp hrow
    (Cert.Lin.readLin0 (StableHlo.after (Cert.ReferenceIdeal.Hand.ptsOps0 (F := Ideal)) BR) ((Cert.ReferenceIdeal.Hand.keep_ptsOps0 BR Cert.ReferenceIdeal.main_cst (by decide)).trans hc) ((Cert.ReferenceIdeal.Hand.keep_ptsOps0 BR Cert.ReferenceIdeal.main_cst_0 (by decide)).trans hc0) ((Cert.ReferenceIdeal.Hand.keep_ptsOps0 BR Cert.ReferenceIdeal.main_c (by decide)).trans hc2))
    (Cert.Lin.readValid0 (StableHlo.after (Cert.ReferenceIdeal.Hand.ptsOps0 (F := Ideal)) BR) ((Cert.ReferenceIdeal.Hand.keep_ptsOps0 BR Cert.ReferenceIdeal.main_cst (by decide)).trans hc) ((Cert.ReferenceIdeal.Hand.keep_ptsOps0 BR Cert.ReferenceIdeal.main_cst_0 (by decide)).trans hc0) ((Cert.ReferenceIdeal.Hand.keep_ptsOps0 BR Cert.ReferenceIdeal.main_c (by decide)).trans hc2))

/-- Batch 1: the three constants the reference's cell-id stretch reads are not written by the batch's point stretch, so
    that stretch reads them as they were; its two readings then give the step. -/
theorem step1 (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v27) = p)
    (hRp : StableHlo.after (Cert.ReferenceIdeal.Hand.ptsOps1 (F := Ideal)) BR (Proc.devRef .tc Cert.ReferenceIdeal.main_v189) = p)
    (hrow : (fun i => shapeCast (Cert.KernelIdeal.main_v203 : Ref Cert.KernelIdeal.sig .tc).ty.shape
            (extractStridedSlice Cert.KernelIdeal.S1x300000 ![1, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_1_0)
            Cert.KernelIdeal.Facts₀.shapeCasts_S1x300000_S300000 i) = Cert.Lin.linR p)
    (hc : BR (Proc.devRef .tc Cert.ReferenceIdeal.main_cst) = fun i => FloatOps.ofBits (F := Ideal) .f32 (Cert.ReferenceIdeal.lit0 (Cert.ReferenceIdeal.S3.rowMajor i)))
    (hc0 : BR (Proc.devRef .tc Cert.ReferenceIdeal.main_cst_0) = fun i => FloatOps.ofBits (F := Ideal) .f32 (Cert.ReferenceIdeal.lit1 (Cert.ReferenceIdeal.S3.rowMajor i)))
    (hc2 : BR (Proc.devRef .tc Cert.ReferenceIdeal.main_c) = fun i => Cert.ReferenceIdeal.lit2 (Cert.ReferenceIdeal.S3.rowMajor i)) :
    StableHlo.after (Cert.KernelIdeal.Tail.ks1 (F := Ideal)) BK (Proc.devRef .tc Cert.KernelIdeal.main_v297)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v310)
    ∧ StableHlo.after (Cert.KernelIdeal.Tail.ks1 (F := Ideal)) BK (Proc.devRef .tc Cert.KernelIdeal.main_v302)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v315)
    ∧ StableHlo.after (Cert.KernelIdeal.Tail.ks1 (F := Ideal)) BK (Proc.devRef .tc Cert.KernelIdeal.main_v338)
        = StableHlo.after (Cert.ReferenceIdeal.Hand.tlOps1 (F := Ideal)) (StableHlo.after (Cert.ReferenceIdeal.Hand.linOps1 (F := Ideal)) (StableHlo.after (Cert.ReferenceIdeal.Hand.ptsOps1 (F := Ideal)) BR)) (Proc.devRef .tc Cert.ReferenceIdeal.main_v351) :=
  step1_core BK BR Y p hK64 hKp hRp hrow
    (Cert.Lin.readLin1 (StableHlo.after (Cert.ReferenceIdeal.Hand.ptsOps1 (F := Ideal)) BR) ((Cert.ReferenceIdeal.Hand.keep_ptsOps1 BR Cert.ReferenceIdeal.main_cst (by decide)).trans hc) ((Cert.ReferenceIdeal.Hand.keep_ptsOps1 BR Cert.ReferenceIdeal.main_cst_0 (by decide)).trans hc0) ((Cert.ReferenceIdeal.Hand.keep_ptsOps1 BR Cert.ReferenceIdeal.main_c (by decide)).trans hc2))
    (Cert.Lin.readValid1 (StableHlo.after (Cert.ReferenceIdeal.Hand.ptsOps1 (F := Ideal)) BR) ((Cert.ReferenceIdeal.Hand.keep_ptsOps1 BR Cert.ReferenceIdeal.main_cst (by decide)).trans hc) ((Cert.ReferenceIdeal.Hand.keep_ptsOps1 BR Cert.ReferenceIdeal.main_cst_0 (by decide)).trans hc0) ((Cert.ReferenceIdeal.Hand.keep_ptsOps1 BR Cert.ReferenceIdeal.main_c (by decide)).trans hc2))

/-- Batch 2: the three constants the reference's cell-id stretch reads are not written by the batch's point stretch, so
    that stretch reads them as they were; its two readings then give the step. -/
theorem step2 (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v41) = p)
    (hRp : StableHlo.after (Cert.ReferenceIdeal.Hand.ptsOps2 (F := Ideal)) BR (Proc.devRef .tc Cert.ReferenceIdeal.main_v365) = p)
    (hrow : (fun i => shapeCast (Cert.KernelIdeal.main_v340 : Ref Cert.KernelIdeal.sig .tc).ty.shape
            (extractStridedSlice Cert.KernelIdeal.S1x300000 ![2, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_2_0)
            Cert.KernelIdeal.Facts₀.shapeCasts_S1x300000_S300000 i) = Cert.Lin.linR p)
    (hc : BR (Proc.devRef .tc Cert.ReferenceIdeal.main_cst) = fun i => FloatOps.ofBits (F := Ideal) .f32 (Cert.ReferenceIdeal.lit0 (Cert.ReferenceIdeal.S3.rowMajor i)))
    (hc0 : BR (Proc.devRef .tc Cert.ReferenceIdeal.main_cst_0) = fun i => FloatOps.ofBits (F := Ideal) .f32 (Cert.ReferenceIdeal.lit1 (Cert.ReferenceIdeal.S3.rowMajor i)))
    (hc2 : BR (Proc.devRef .tc Cert.ReferenceIdeal.main_c) = fun i => Cert.ReferenceIdeal.lit2 (Cert.ReferenceIdeal.S3.rowMajor i)) :
    StableHlo.after (Cert.KernelIdeal.Tail.ks2 (F := Ideal)) BK (Proc.devRef .tc Cert.KernelIdeal.main_v434)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v486)
    ∧ StableHlo.after (Cert.KernelIdeal.Tail.ks2 (F := Ideal)) BK (Proc.devRef .tc Cert.KernelIdeal.main_v439)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v491)
    ∧ StableHlo.after (Cert.KernelIdeal.Tail.ks2 (F := Ideal)) BK (Proc.devRef .tc Cert.KernelIdeal.main_v475)
        = StableHlo.after (Cert.ReferenceIdeal.Hand.tlOps2 (F := Ideal)) (StableHlo.after (Cert.ReferenceIdeal.Hand.linOps2 (F := Ideal)) (StableHlo.after (Cert.ReferenceIdeal.Hand.ptsOps2 (F := Ideal)) BR)) (Proc.devRef .tc Cert.ReferenceIdeal.main_v527) :=
  step2_core BK BR Y p hK64 hKp hRp hrow
    (Cert.Lin.readLin2 (StableHlo.after (Cert.ReferenceIdeal.Hand.ptsOps2 (F := Ideal)) BR) ((Cert.ReferenceIdeal.Hand.keep_ptsOps2 BR Cert.ReferenceIdeal.main_cst (by decide)).trans hc) ((Cert.ReferenceIdeal.Hand.keep_ptsOps2 BR Cert.ReferenceIdeal.main_cst_0 (by decide)).trans hc0) ((Cert.ReferenceIdeal.Hand.keep_ptsOps2 BR Cert.ReferenceIdeal.main_c (by decide)).trans hc2))
    (Cert.Lin.readValid2 (StableHlo.after (Cert.ReferenceIdeal.Hand.ptsOps2 (F := Ideal)) BR) ((Cert.ReferenceIdeal.Hand.keep_ptsOps2 BR Cert.ReferenceIdeal.main_cst (by decide)).trans hc) ((Cert.ReferenceIdeal.Hand.keep_ptsOps2 BR Cert.ReferenceIdeal.main_cst_0 (by decide)).trans hc0) ((Cert.ReferenceIdeal.Hand.keep_ptsOps2 BR Cert.ReferenceIdeal.main_c (by decide)).trans hc2))

/-- Batch 3: the three constants the reference's cell-id stretch reads are not written by the batch's point stretch, so
    that stretch reads them as they were; its two readings then give the step. -/
theorem step3 (BK : Valuation Cert.KernelIdeal.τ Cert.KernelIdeal.sig (Elt Ideal)) (BR : Valuation Cert.ReferenceIdeal.τ Cert.ReferenceIdeal.sig (Elt Ideal))
    (Y : IVec Cert.KernelIdeal.S4x1x300000 32) (p : FVec Ideal Cert.KernelIdeal.S300000x5 .f32)
    (hK64 : BK (Proc.devRef .tc Cert.KernelIdeal.main_v64) = (fun i => shapeCast (Cert.KernelIdeal.main_v64 : Ref Cert.KernelIdeal.sig .tc).ty.shape Y Cert.KernelIdeal.Facts₀.shapeCasts_S4x1x300000_S4x300000 i))
    (hKp : BK (Proc.devRef .tc Cert.KernelIdeal.main_v55) = p)
    (hRp : StableHlo.after (Cert.ReferenceIdeal.Hand.ptsOps3 (F := Ideal)) BR (Proc.devRef .tc Cert.ReferenceIdeal.main_v541) = p)
    (hrow : (fun i => shapeCast (Cert.KernelIdeal.main_v477 : Ref Cert.KernelIdeal.sig .tc).ty.shape
            (extractStridedSlice Cert.KernelIdeal.S1x300000 ![3, 0] (fun i => shapeCast (Cert.KernelIdeal.main_v64 : Ref Cert.KernelIdeal.sig .tc).ty.shape Y Cert.KernelIdeal.Facts₀.shapeCasts_S4x1x300000_S4x300000 i) Cert.KernelIdeal.Facts₀.slices_S4x300000_S1x300000_3_0)
            Cert.KernelIdeal.Facts₀.shapeCasts_S1x300000_S300000 i) = Cert.Lin.linR p)
    (hc : BR (Proc.devRef .tc Cert.ReferenceIdeal.main_cst) = fun i => FloatOps.ofBits (F := Ideal) .f32 (Cert.ReferenceIdeal.lit0 (Cert.ReferenceIdeal.S3.rowMajor i)))
    (hc0 : BR (Proc.devRef .tc Cert.ReferenceIdeal.main_cst_0) = fun i => FloatOps.ofBits (F := Ideal) .f32 (Cert.ReferenceIdeal.lit1 (Cert.ReferenceIdeal.S3.rowMajor i)))
    (hc2 : BR (Proc.devRef .tc Cert.ReferenceIdeal.main_c) = fun i => Cert.ReferenceIdeal.lit2 (Cert.ReferenceIdeal.S3.rowMajor i)) :
    StableHlo.after (Cert.KernelIdeal.Tail.ks3 (F := Ideal)) BK (Proc.devRef .tc Cert.KernelIdeal.main_v571)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v662)
    ∧ StableHlo.after (Cert.KernelIdeal.Tail.ks3 (F := Ideal)) BK (Proc.devRef .tc Cert.KernelIdeal.main_v576)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v667)
    ∧ StableHlo.after (Cert.KernelIdeal.Tail.ks3 (F := Ideal)) BK (Proc.devRef .tc Cert.KernelIdeal.main_v612)
        = StableHlo.after (Cert.ReferenceIdeal.Hand.tlOps3 (F := Ideal)) (StableHlo.after (Cert.ReferenceIdeal.Hand.linOps3 (F := Ideal)) (StableHlo.after (Cert.ReferenceIdeal.Hand.ptsOps3 (F := Ideal)) BR)) (Proc.devRef .tc Cert.ReferenceIdeal.main_v703) :=
  step3_core BK BR Y p hK64 hKp hRp hrow
    (Cert.Lin.readLin3 (StableHlo.after (Cert.ReferenceIdeal.Hand.ptsOps3 (F := Ideal)) BR) ((Cert.ReferenceIdeal.Hand.keep_ptsOps3 BR Cert.ReferenceIdeal.main_cst (by decide)).trans hc) ((Cert.ReferenceIdeal.Hand.keep_ptsOps3 BR Cert.ReferenceIdeal.main_cst_0 (by decide)).trans hc0) ((Cert.ReferenceIdeal.Hand.keep_ptsOps3 BR Cert.ReferenceIdeal.main_c (by decide)).trans hc2))
    (Cert.Lin.readValid3 (StableHlo.after (Cert.ReferenceIdeal.Hand.ptsOps3 (F := Ideal)) BR) ((Cert.ReferenceIdeal.Hand.keep_ptsOps3 BR Cert.ReferenceIdeal.main_cst (by decide)).trans hc) ((Cert.ReferenceIdeal.Hand.keep_ptsOps3 BR Cert.ReferenceIdeal.main_cst_0 (by decide)).trans hc0) ((Cert.ReferenceIdeal.Hand.keep_ptsOps3 BR Cert.ReferenceIdeal.main_c (by decide)).trans hc2))

end Cert.Bridge

end
-- ==== Proof.BridgeFin.lean ====
import proofs.«111982_j16939351015723_2_alg».proof.Proof.KTail
import proofs.«111982_j16939351015723_2_alg».proof.Proof.RefOps
import Idealize.ShloMosaic.PureOps.Ideal

set_option maxRecDepth 16384

noncomputable section
namespace Cert.Bridge
open Idealize.ShloMosaic Idealize.ShloMosaic.TcCoe Idealize.SL.Sem Idealize.ShloMosaic.StableHlo

/-! ## The final stacking

Both programs end with three concatenations along the first axis, each of the four batches' results: the voxels, the
point counts, the coordinates. A concatenation writes its own result only, so the k-th result is the k-th concatenation
applied to the incoming contents of its four operands (the earlier concatenations write other buffers); the two programs'
operands agree by hypothesis, and the two concatenations are then one term, up to the two programs' spellings of the
shapes. -/

/-- The four batches' results stacked: equal batches give equal stacks. -/
theorem fin_all (WK : Valuation Cert.KernelIdeal.τ Cert.KernelIdeal.sig (Elt Ideal)) (WR : Valuation Cert.ReferenceIdeal.τ Cert.ReferenceIdeal.sig (Elt Ideal))
    (a0 : WK (Proc.devRef .tc Cert.KernelIdeal.main_v160) = WR (Proc.devRef .tc Cert.ReferenceIdeal.main_v134))
    (a1 : WK (Proc.devRef .tc Cert.KernelIdeal.main_v297) = WR (Proc.devRef .tc Cert.ReferenceIdeal.main_v310))
    (a2 : WK (Proc.devRef .tc Cert.KernelIdeal.main_v434) = WR (Proc.devRef .tc Cert.ReferenceIdeal.main_v486))
    (a3 : WK (Proc.devRef .tc Cert.KernelIdeal.main_v571) = WR (Proc.devRef .tc Cert.ReferenceIdeal.main_v662))
    (b0 : WK (Proc.devRef .tc Cert.KernelIdeal.main_v165) = WR (Proc.devRef .tc Cert.ReferenceIdeal.main_v139))
    (b1 : WK (Proc.devRef .tc Cert.KernelIdeal.main_v302) = WR (Proc.devRef .tc Cert.ReferenceIdeal.main_v315))
    (b2 : WK (Proc.devRef .tc Cert.KernelIdeal.main_v439) = WR (Proc.devRef .tc Cert.ReferenceIdeal.main_v491))
    (b3 : WK (Proc.devRef .tc Cert.KernelIdeal.main_v576) = WR (Proc.devRef .tc Cert.ReferenceIdeal.main_v667))
    (c0 : WK (Proc.devRef .tc Cert.KernelIdeal.main_v201) = WR (Proc.devRef .tc Cert.ReferenceIdeal.main_v175))
    (c1 : WK (Proc.devRef .tc Cert.KernelIdeal.main_v338) = WR (Proc.devRef .tc Cert.ReferenceIdeal.main_v351))
    (c2 : WK (Proc.devRef .tc Cert.KernelIdeal.main_v475) = WR (Proc.devRef .tc Cert.ReferenceIdeal.main_v527))
    (c3 : WK (Proc.devRef .tc Cert.KernelIdeal.main_v612) = WR (Proc.devRef .tc Cert.ReferenceIdeal.main_v703)) :
    StableHlo.after (Cert.ReferenceIdeal.Hand.finOps (F := Ideal)) WR (Proc.devRef .tc Cert.ReferenceIdeal.main_v704)
        = StableHlo.after (Cert.KernelIdeal.Tail.kFin (F := Ideal)) WK (Proc.devRef .tc Cert.KernelIdeal.main_v613)
    ∧ StableHlo.after (Cert.ReferenceIdeal.Hand.finOps (F := Ideal)) WR (Proc.devRef .tc Cert.ReferenceIdeal.main_v705)
        = StableHlo.after (Cert.KernelIdeal.Tail.kFin (F := Ideal)) WK (Proc.devRef .tc Cert.KernelIdeal.main_v614)
    ∧ StableHlo.after (Cert.ReferenceIdeal.Hand.finOps (F := Ideal)) WR (Proc.devRef .tc Cert.ReferenceIdeal.main_v706)
        = StableHlo.after (Cert.KernelIdeal.Tail.kFin (F := Ideal)) WK (Proc.devRef .tc Cert.KernelIdeal.main_v615) := by
  refine ⟨?_, ?_, ?_⟩
  · -- the voxels: the first concatenation, which the two later ones leave alone
    simp only [after_cons, after_nil]
    refine (nary_result_ne _ _ _ _ _ _ ?hr0).trans ?_
    case hr0 => decide
    refine (nary_result_ne _ _ _ _ _ _ ?hr1).trans ?_
    case hr1 => decide
    refine (nary4_result _ _ _ _).trans ?_
    refine Eq.symm ?_
    refine (nary_result_ne _ _ _ _ _ _ ?hk0).trans ?_
    case hk0 => decide
    refine (nary_result_ne _ _ _ _ _ _ ?hk1).trans ?_
    case hk1 => decide
    refine (nary4_result _ _ _ _).trans ?_
    rw [a0, a1, a2, a3]
    rfl
  · -- the point counts: the second concatenation, its operands untouched by the first
    simp only [after_cons, after_nil]
    refine (nary_result_ne _ _ _ _ _ _ ?hr0).trans ?_
    case hr0 => decide
    refine (nary4_result _ _ _ _).trans ?_
    refine Eq.symm ?_
    refine (nary_result_ne _ _ _ _ _ _ ?hk0).trans ?_
    case hk0 => decide
    refine (nary4_result _ _ _ _).trans ?_
    repeat (rw [nary_result_ne]; rotate_left; decide)
    rw [b0, b1, b2, b3]
    rfl
  · -- the coordinates: the third concatenation, its operands untouched by the first two
    simp only [after_cons, after_nil]
    refine (nary4_result _ _ _ _).trans ?_
    refine Eq.symm ?_
    refine (nary4_result _ _ _ _).trans ?_
    repeat (rw [nary_result_ne]; rotate_left; decide)
    rw [c0, c1, c2, c3]
    rfl

end Cert.Bridge
end
-- ==== Proof.BridgeTop.lean ====
import proofs.«111982_j16939351015723_2_alg».proof.Proof.KFI_Final
import proofs.«111982_j16939351015723_2_alg».proof.Proof.KTail
import proofs.«111982_j16939351015723_2_alg».proof.Proof.KeepK
import proofs.«111982_j16939351015723_2_alg».proof.Proof.RefRun
import proofs.«111982_j16939351015723_2_alg».proof.Proof.KeepR
import proofs.«111982_j16939351015723_2_alg».proof.Proof.PtsBridge
import proofs.«111982_j16939351015723_2_alg».proof.Proof.LinRowK
import proofs.«111982_j16939351015723_2_alg».proof.Proof.LinReadR
import proofs.«111982_j16939351015723_2_alg».proof.Proof.BridgeStep
import proofs.«111982_j16939351015723_2_alg».proof.Proof.BridgeFin

/-!
  The two programs' results are equal.

  After the region the kernel program holds, in `main_v63`, the cell id of every point of every batch; the rest of its
  text treats the four batches one after the other exactly as the reference does, the reference computing each batch's
  points, cell ids and validity mask right before it uses them. So the proof walks the two texts batch by batch: before
  batch `I` the kernel side's valuation and the reference's agree on the results of the batches before; the batch's
  points are one function of the argument on both sides, the kernel's row `I` of cell ids is the reference's cell ids of
  those points, and from there the operations are the same. A buffer written once is carried across the stretches that
  do not write it.
-/

set_option maxRecDepth 16384

noncomputable section
namespace Cert.Bridge
open Idealize.ShloMosaic Idealize.ShloMosaic.TcCoe Idealize.SL.Sem Idealize.ShloMosaic.StableHlo
open Cert.KernelIdeal.Tail Cert.ReferenceIdeal.Hand

/-! ## The valuations along the two texts -/

/-- The kernel side: after the reshape of the region's result, then after each batch. -/
abbrev KA (W : Valuation Cert.KernelIdeal.τ Cert.KernelIdeal.sig (Elt Ideal)) : Valuation Cert.KernelIdeal.τ Cert.KernelIdeal.sig (Elt Ideal) := after (kHead (F := Ideal)) W
abbrev KB0 (W : Valuation Cert.KernelIdeal.τ Cert.KernelIdeal.sig (Elt Ideal)) : Valuation Cert.KernelIdeal.τ Cert.KernelIdeal.sig (Elt Ideal) := after (ks0 (F := Ideal)) (KA W)
abbrev KB1 (W : Valuation Cert.KernelIdeal.τ Cert.KernelIdeal.sig (Elt Ideal)) : Valuation Cert.KernelIdeal.τ Cert.KernelIdeal.sig (Elt Ideal) := after (ks1 (F := Ideal)) (KB0 W)
abbrev KB2 (W : Valuation Cert.KernelIdeal.τ Cert.KernelIdeal.sig (Elt Ideal)) : Valuation Cert.KernelIdeal.τ Cert.KernelIdeal.sig (Elt Ideal) := after (ks2 (F := Ideal)) (KB1 W)
abbrev KB3 (W : Valuation Cert.KernelIdeal.τ Cert.KernelIdeal.sig (Elt Ideal)) : Valuation Cert.KernelIdeal.τ Cert.KernelIdeal.sig (Elt Ideal) := after (ks3 (F := Ideal)) (KB2 W)

/-- The reference: after the leading constants, then per batch after its points, its cell ids, the rest. -/
abbrev R0 (W : Valuation Cert.ReferenceIdeal.τ Cert.ReferenceIdeal.sig (Elt Ideal)) : Valuation Cert.ReferenceIdeal.τ Cert.ReferenceIdeal.sig (Elt Ideal) := after (hdOps (F := Ideal)) W
abbrev Rp0 (W : Valuation Cert.ReferenceIdeal.τ Cert.ReferenceIdeal.sig (Elt Ideal)) : Valuation Cert.ReferenceIdeal.τ Cert.ReferenceIdeal.sig (Elt Ideal) := after (ptsOps0 (F := Ideal)) (R0 W)
abbrev Rl0 (W : Valuation Cert.ReferenceIdeal.τ Cert.ReferenceIdeal.sig (Elt Ideal)) : Valuation Cert.ReferenceIdeal.τ Cert.ReferenceIdeal.sig (Elt Ideal) := after (linOps0 (F := Ideal)) (Rp0 W)
abbrev Rt0 (W : Valuation Cert.ReferenceIdeal.τ Cert.ReferenceIdeal.sig (Elt Ideal)) : Valuation Cert.ReferenceIdeal.τ Cert.ReferenceIdeal.sig (Elt Ideal) := after (tlOps0 (F := Ideal)) (Rl0 W)
abbrev Rp1 (W : Valuation Cert.ReferenceIdeal.τ Cert.ReferenceIdeal.sig (Elt Ideal)) : Valuation Cert.ReferenceIdeal.τ Cert.ReferenceIdeal.sig (Elt Ideal) := after (ptsOps1 (F := Ideal)) (Rt0 W)
abbrev Rl1 (W : Valuation Cert.ReferenceIdeal.τ Cert.ReferenceIdeal.sig (Elt Ideal)) : Valuation Cert.ReferenceIdeal.τ Cert.ReferenceIdeal.sig (Elt Ideal) := after (linOps1 (F := Ideal)) (Rp1 W)
abbrev Rt1 (W : Valuation Cert.ReferenceIdeal.τ Cert.ReferenceIdeal.sig (Elt Ideal)) : Valuation Cert.ReferenceIdeal.τ Cert.ReferenceIdeal.sig (Elt Ideal) := after (tlOps1 (F := Ideal)) (Rl1 W)
abbrev Rp2 (W : Valuation Cert.ReferenceIdeal.τ Cert.ReferenceIdeal.sig (Elt Ideal)) : Valuation Cert.ReferenceIdeal.τ Cert.ReferenceIdeal.sig (Elt Ideal) := after (ptsOps2 (F := Ideal)) (Rt1 W)
abbrev Rl2 (W : Valuation Cert.ReferenceIdeal.τ Cert.ReferenceIdeal.sig (Elt Ideal)) : Valuation Cert.ReferenceIdeal.τ Cert.ReferenceIdeal.sig (Elt Ideal) := after (linOps2 (F := Ideal)) (Rp2 W)
abbrev Rt2 (W : Valuation Cert.ReferenceIdeal.τ Cert.ReferenceIdeal.sig (Elt Ideal)) : Valuation Cert.ReferenceIdeal.τ Cert.ReferenceIdeal.sig (Elt Ideal) := after (tlOps2 (F := Ideal)) (Rl2 W)
abbrev Rp3 (W : Valuation Cert.ReferenceIdeal.τ Cert.ReferenceIdeal.sig (Elt Ideal)) : Valuation Cert.ReferenceIdeal.τ Cert.ReferenceIdeal.sig (Elt Ideal) := after (ptsOps3 (F := Ideal)) (Rt2 W)
abbrev Rl3 (W : Valuation Cert.ReferenceIdeal.τ Cert.ReferenceIdeal.sig (Elt Ideal)) : Valuation Cert.ReferenceIdeal.τ Cert.ReferenceIdeal.sig (Elt Ideal) := after (linOps3 (F := Ideal)) (Rp3 W)
abbrev Rt3 (W : Valuation Cert.ReferenceIdeal.τ Cert.ReferenceIdeal.sig (Elt Ideal)) : Valuation Cert.ReferenceIdeal.τ Cert.ReferenceIdeal.sig (Elt Ideal) := after (tlOps3 (F := Ideal)) (Rl3 W)

/-- The kernel side's contents when the region has ended: the contents the region found, with the region's two arrays
    as the region leaves them. -/
abbrev Wk (m : (ℓ : Loc Cert.KernelIdeal.nD Cert.KernelIdeal.τ Cert.KernelIdeal.sig) → Buf (Elt Ideal) ℓ) (c : Dev Cert.KernelIdeal.nD) : Valuation Cert.KernelIdeal.τ Cert.KernelIdeal.sig (Elt Ideal) :=
  Pipeline.withArrays (Cert.KernelIdeal.cfgs 0).spec c (Cert.KernelIdeal.Hand.V0 m c) fun w => (Cert.KernelIdeal.Hand.dats m 0 c).arrAt w (Cert.KernelIdeal.cfgs 0).N

/-! ## The two programs' results as the closing operations over the valuations after the last batch -/

/-- The kernel program's result at a buffer: the operations after the region are the reshape, the four batches and
    the closing concatenations, one after the other. -/
theorem tail_eq (m : (ℓ : Loc Cert.KernelIdeal.nD Cert.KernelIdeal.τ Cert.KernelIdeal.sig) → Buf (Elt Ideal) ℓ) (c : Dev Cert.KernelIdeal.nD) (b : Ref Cert.KernelIdeal.sig .tc) :
    Pipeline.afterTail₀ Cert.KernelIdeal.cfgs (Cert.KernelIdeal.Hand.dats m) 0 (Cert.KernelIdeal.Hand.V0 m) Cert.KernelIdeal.Hand.tailOps c b
      = after (kFin (F := Ideal)) (KB3 (Wk m c)) (Proc.devRef .tc b) := by
  unfold Pipeline.afterTail₀
  rw [show (Cert.KernelIdeal.Hand.tailOps (F := Ideal)).flatten = kHead ++ ks0 ++ ks1 ++ ks2 ++ ks3 ++ kFin from Cert.KernelIdeal.Tail.flatten_eq,
    after_append, after_append, after_append, after_append, after_append]

/-- The reference's result at a buffer: its operations are the leading constants, the four batches' three stretches
    each and the closing concatenations, one after the other. -/
theorem ref_eq (W' : Valuation Cert.ReferenceIdeal.τ Cert.ReferenceIdeal.sig (Elt Ideal)) (b : Ref Cert.ReferenceIdeal.sig .tc) :
    after (Cert.ReferenceIdeal.Hand.ops (F := Ideal)) W' (Proc.devRef .tc b) = after (finOps (F := Ideal)) (Rt3 W') (Proc.devRef .tc b) := by
  rw [show (Cert.ReferenceIdeal.Hand.ops (F := Ideal)) = hdOps ++ ptsOps0 ++ linOps0 ++ tlOps0 ++ ptsOps1 ++ linOps1 ++ tlOps1 ++ ptsOps2 ++ linOps2 ++ tlOps2 ++ ptsOps3 ++ linOps3 ++ tlOps3 ++ finOps from rfl,
    after_append, after_append, after_append, after_append, after_append, after_append, after_append, after_append, after_append, after_append, after_append, after_append, after_append]

/-! ## A buffer no stretch of a batch writes is carried across the batch -/
theorem keepR0 (V : Valuation Cert.ReferenceIdeal.τ Cert.ReferenceIdeal.sig (Elt Ideal)) (r : Ref Cert.ReferenceIdeal.sig .tc) (h1 : r ∉ wr_ptsOps0) (h2 : r ∉ wr_linOps0) (h3 : r ∉ wr_tlOps0) :
    after (tlOps0 (F := Ideal)) (after (linOps0 (F := Ideal)) (after (ptsOps0 (F := Ideal)) V)) (Proc.devRef .tc r) = V (Proc.devRef .tc r) :=
  (keep_tlOps0 _ r h3).trans ((keep_linOps0 _ r h2).trans (keep_ptsOps0 V r h1))
theorem keepR1 (V : Valuation Cert.ReferenceIdeal.τ Cert.ReferenceIdeal.sig (Elt Ideal)) (r : Ref Cert.ReferenceIdeal.sig .tc) (h1 : r ∉ wr_ptsOps1) (h2 : r ∉ wr_linOps1) (h3 : r ∉ wr_tlOps1) :
    after (tlOps1 (F := Ideal)) (after (linOps1 (F := Ideal)) (after (ptsOps1 (F := Ideal)) V)) (Proc.devRef .tc r) = V (Proc.devRef .tc r) :=
  (keep_tlOps1 _ r h3).trans ((keep_linOps1 _ r h2).trans (keep_ptsOps1 V r h1))
theorem keepR2 (V : Valuation Cert.ReferenceIdeal.τ Cert.ReferenceIdeal.sig (Elt Ideal)) (r : Ref Cert.ReferenceIdeal.sig .tc) (h1 : r ∉ wr_ptsOps2) (h2 : r ∉ wr_linOps2) (h3 : r ∉ wr_tlOps2) :
    after (tlOps2 (F := Ideal)) (after (linOps2 (F := Ideal)) (after (ptsOps2 (F := Ideal)) V)) (Proc.devRef .tc r) = V (Proc.devRef .tc r) :=
  (keep_tlOps2 _ r h3).trans ((keep_linOps2 _ r h2).trans (keep_ptsOps2 V r h1))
theorem keepR3 (V : Valuation Cert.ReferenceIdeal.τ Cert.ReferenceIdeal.sig (Elt Ideal)) (r : Ref Cert.ReferenceIdeal.sig .tc) (h1 : r ∉ wr_ptsOps3) (h2 : r ∉ wr_linOps3) (h3 : r ∉ wr_tlOps3) :
    after (tlOps3 (F := Ideal)) (after (linOps3 (F := Ideal)) (after (ptsOps3 (F := Ideal)) V)) (Proc.devRef .tc r) = V (Proc.devRef .tc r) :=
  (keep_tlOps3 _ r h3).trans ((keep_linOps3 _ r h2).trans (keep_ptsOps3 V r h1))

/-! ## The walk, batch by batch -/

/-- The two programs' results are equal, given that the reference is run from contents whose argument buffer holds what the
    kernel program was launched with. -/
theorem values (m : (ℓ : Loc Cert.KernelIdeal.nD Cert.KernelIdeal.τ Cert.KernelIdeal.sig) → Buf (Elt Ideal) ℓ) (c : Dev Cert.KernelIdeal.nD) (W' : Valuation Cert.ReferenceIdeal.τ Cert.ReferenceIdeal.sig (Elt Ideal))
    (harg : W' (Proc.devRef .tc Cert.ReferenceIdeal.main_arg0) = m ((c.tc : Thread Cert.KernelIdeal.nD Cert.KernelIdeal.τ).loc Cert.KernelIdeal.main_arg0)) :
    after (Cert.ReferenceIdeal.Hand.ops (F := Ideal)) W' (Proc.devRef .tc Cert.ReferenceIdeal.main_v704) = Pipeline.afterTail₀ Cert.KernelIdeal.cfgs (Cert.KernelIdeal.Hand.dats m) 0 (Cert.KernelIdeal.Hand.V0 m) Cert.KernelIdeal.Hand.tailOps c Cert.KernelIdeal.main_v613
    ∧ after (Cert.ReferenceIdeal.Hand.ops (F := Ideal)) W' (Proc.devRef .tc Cert.ReferenceIdeal.main_v705) = Pipeline.afterTail₀ Cert.KernelIdeal.cfgs (Cert.KernelIdeal.Hand.dats m) 0 (Cert.KernelIdeal.Hand.V0 m) Cert.KernelIdeal.Hand.tailOps c Cert.KernelIdeal.main_v614
    ∧ after (Cert.ReferenceIdeal.Hand.ops (F := Ideal)) W' (Proc.devRef .tc Cert.ReferenceIdeal.main_v706) = Pipeline.afterTail₀ Cert.KernelIdeal.cfgs (Cert.KernelIdeal.Hand.dats m) 0 (Cert.KernelIdeal.Hand.V0 m) Cert.KernelIdeal.Hand.tailOps c Cert.KernelIdeal.main_v615 := by
  -- the region's result and the points, as the kernel side holds them after the region
  have hW63 : Wk m c (Proc.devRef .tc Cert.KernelIdeal.main_v63) = Cert.KernelIdeal.Hand.G1 m c :=
    (Pipeline.withArrays_arr (Cert.KernelIdeal.cfgs 0).spec Cert.KernelIdeal.Gen.launch0.win.arr_inj c _ _ 1).trans (Cert.KernelIdeal.Hand.final1 m c)
  have h64 : KA (Wk m c) (Proc.devRef .tc Cert.KernelIdeal.main_v64) = (fun i => shapeCast (Cert.KernelIdeal.main_v64 : Ref Cert.KernelIdeal.sig .tc).ty.shape (Cert.KernelIdeal.Hand.G1 m c) Cert.KernelIdeal.Facts₀.shapeCasts_S4x1x300000_S4x300000 i) := by
    have e : KA (Wk m c) (Proc.devRef .tc Cert.KernelIdeal.main_v64) = fun i => shapeCast (Cert.KernelIdeal.main_v64 : Ref Cert.KernelIdeal.sig .tc).ty.shape (Wk m c (Proc.devRef .tc Cert.KernelIdeal.main_v63)) Cert.KernelIdeal.Facts₀.shapeCasts_S4x1x300000_S4x300000 i := by
      after_results
    rw [e, hW63]
  have hflat : List.flatten [Cert.KernelIdeal.Gen.hostOps0 (F := Ideal)] = Cert.KernelIdeal.Gen.hostOps0 := by
    rw [List.flatten_cons, List.flatten_nil, List.append_nil]
  have hWp0 : Wk m c (Proc.devRef .tc Cert.KernelIdeal.main_v13) = Cert.KernelIdeal.Hand.V m c Cert.KernelIdeal.main_v13 :=
    Pipeline.withArrays_of_ne _ c _ _ Cert.KernelIdeal.main_v13 (by decide)
  have eV0 : after (Cert.KernelIdeal.Gen.hostOps0 (F := Ideal)) (fun b => m (c, b)) (Proc.devRef .tc Cert.KernelIdeal.main_v13) = Cert.KernelIdeal.Hand.V m c Cert.KernelIdeal.main_v13 := by
    show _ = after (List.flatten [Cert.KernelIdeal.Gen.hostOps0 (F := Ideal)]) _ _
    rw [hflat]
  have hWp1 : Wk m c (Proc.devRef .tc Cert.KernelIdeal.main_v27) = Cert.KernelIdeal.Hand.V m c Cert.KernelIdeal.main_v27 :=
    Pipeline.withArrays_of_ne _ c _ _ Cert.KernelIdeal.main_v27 (by decide)
  have eV1 : after (Cert.KernelIdeal.Gen.hostOps0 (F := Ideal)) (fun b => m (c, b)) (Proc.devRef .tc Cert.KernelIdeal.main_v27) = Cert.KernelIdeal.Hand.V m c Cert.KernelIdeal.main_v27 := by
    show _ = after (List.flatten [Cert.KernelIdeal.Gen.hostOps0 (F := Ideal)]) _ _
    rw [hflat]
  have hWp2 : Wk m c (Proc.devRef .tc Cert.KernelIdeal.main_v41) = Cert.KernelIdeal.Hand.V m c Cert.KernelIdeal.main_v41 :=
    Pipeline.withArrays_of_ne _ c _ _ Cert.KernelIdeal.main_v41 (by decide)
  have eV2 : after (Cert.KernelIdeal.Gen.hostOps0 (F := Ideal)) (fun b => m (c, b)) (Proc.devRef .tc Cert.KernelIdeal.main_v41) = Cert.KernelIdeal.Hand.V m c Cert.KernelIdeal.main_v41 := by
    show _ = after (List.flatten [Cert.KernelIdeal.Gen.hostOps0 (F := Ideal)]) _ _
    rw [hflat]
  have hWp3 : Wk m c (Proc.devRef .tc Cert.KernelIdeal.main_v55) = Cert.KernelIdeal.Hand.V m c Cert.KernelIdeal.main_v55 :=
    Pipeline.withArrays_of_ne _ c _ _ Cert.KernelIdeal.main_v55 (by decide)
  have eV3 : after (Cert.KernelIdeal.Gen.hostOps0 (F := Ideal)) (fun b => m (c, b)) (Proc.devRef .tc Cert.KernelIdeal.main_v55) = Cert.KernelIdeal.Hand.V m c Cert.KernelIdeal.main_v55 := by
    show _ = after (List.flatten [Cert.KernelIdeal.Gen.hostOps0 (F := Ideal)]) _ _
    rw [hflat]
  -- the reference after its leading constants: the argument as given, the three constants as written
  have ra0 : R0 W' (Proc.devRef .tc Cert.ReferenceIdeal.main_arg0) = (fun b => m (c, b)) (Proc.devRef .tc Cert.KernelIdeal.main_arg0) :=
    (keep_hdOps W' Cert.ReferenceIdeal.main_arg0 (by decide)).trans harg
  have rc0 := Cert.Lin.hd_cst W'
  have rd0 := Cert.Lin.hd_cst_0 W'
  have re0 := Cert.Lin.hd_c W'
  -- batch 0
  have k64_0 : (KA (Wk m c)) (Proc.devRef .tc Cert.KernelIdeal.main_v64) = (fun i => shapeCast (Cert.KernelIdeal.main_v64 : Ref Cert.KernelIdeal.sig .tc).ty.shape (Cert.KernelIdeal.Hand.G1 m c) Cert.KernelIdeal.Facts₀.shapeCasts_S4x1x300000_S4x300000 i) := h64
  have kp0 : (KA (Wk m c)) (Proc.devRef .tc Cert.KernelIdeal.main_v13) = Cert.KernelIdeal.Hand.V m c Cert.KernelIdeal.main_v13 := (keep_kHead (Wk m c) Cert.KernelIdeal.main_v13 (by decide)).trans hWp0
  have rp0 : after (ptsOps0 (F := Ideal)) (R0 W') (Proc.devRef .tc Cert.ReferenceIdeal.main_v13) = Cert.KernelIdeal.Hand.V m c Cert.KernelIdeal.main_v13 :=
    (Cert.Pts.pts0 (fun b => m (c, b)) (R0 W') ra0).trans eV0
  have s0 := step0 (KA (Wk m c)) (R0 W') (Cert.KernelIdeal.Hand.G1 m c) (Cert.KernelIdeal.Hand.V m c Cert.KernelIdeal.main_v13) k64_0 kp0 rp0 (Cert.Lin.krow0 m c) rc0 rd0 re0
  have ra1 : Rt0 W' (Proc.devRef .tc Cert.ReferenceIdeal.main_arg0) = (fun b => m (c, b)) (Proc.devRef .tc Cert.KernelIdeal.main_arg0) :=
    (keepR0 (R0 W') Cert.ReferenceIdeal.main_arg0 (by decide) (by decide) (by decide)).trans ra0
  have rc1 := (keepR0 (R0 W') Cert.ReferenceIdeal.main_cst (by decide) (by decide) (by decide)).trans rc0
  have rd1 := (keepR0 (R0 W') Cert.ReferenceIdeal.main_cst_0 (by decide) (by decide) (by decide)).trans rd0
  have re1 := (keepR0 (R0 W') Cert.ReferenceIdeal.main_c (by decide) (by decide) (by decide)).trans re0
  -- batch 1
  have k64_1 : (KB0 (Wk m c)) (Proc.devRef .tc Cert.KernelIdeal.main_v64) = (fun i => shapeCast (Cert.KernelIdeal.main_v64 : Ref Cert.KernelIdeal.sig .tc).ty.shape (Cert.KernelIdeal.Hand.G1 m c) Cert.KernelIdeal.Facts₀.shapeCasts_S4x1x300000_S4x300000 i) := (keep_ks0 (KA (Wk m c)) Cert.KernelIdeal.main_v64 (by decide)).trans k64_0
  have kp1 : (KB0 (Wk m c)) (Proc.devRef .tc Cert.KernelIdeal.main_v27) = Cert.KernelIdeal.Hand.V m c Cert.KernelIdeal.main_v27 := (keep_ks0 (KA (Wk m c)) Cert.KernelIdeal.main_v27 (by decide)).trans ((keep_kHead (Wk m c) Cert.KernelIdeal.main_v27 (by decide)).trans hWp1)
  have rp1 : after (ptsOps1 (F := Ideal)) (Rt0 W') (Proc.devRef .tc Cert.ReferenceIdeal.main_v189) = Cert.KernelIdeal.Hand.V m c Cert.KernelIdeal.main_v27 :=
    (Cert.Pts.pts1 (fun b => m (c, b)) (Rt0 W') ra1).trans eV1
  have s1 := step1 (KB0 (Wk m c)) (Rt0 W') (Cert.KernelIdeal.Hand.G1 m c) (Cert.KernelIdeal.Hand.V m c Cert.KernelIdeal.main_v27) k64_1 kp1 rp1 (Cert.Lin.krow1 m c) rc1 rd1 re1
  have ra2 : Rt1 W' (Proc.devRef .tc Cert.ReferenceIdeal.main_arg0) = (fun b => m (c, b)) (Proc.devRef .tc Cert.KernelIdeal.main_arg0) :=
    (keepR1 (Rt0 W') Cert.ReferenceIdeal.main_arg0 (by decide) (by decide) (by decide)).trans ra1
  have rc2 := (keepR1 (Rt0 W') Cert.ReferenceIdeal.main_cst (by decide) (by decide) (by decide)).trans rc1
  have rd2 := (keepR1 (Rt0 W') Cert.ReferenceIdeal.main_cst_0 (by decide) (by decide) (by decide)).trans rd1
  have re2 := (keepR1 (Rt0 W') Cert.ReferenceIdeal.main_c (by decide) (by decide) (by decide)).trans re1
  -- batch 2
  have k64_2 : (KB1 (Wk m c)) (Proc.devRef .tc Cert.KernelIdeal.main_v64) = (fun i => shapeCast (Cert.KernelIdeal.main_v64 : Ref Cert.KernelIdeal.sig .tc).ty.shape (Cert.KernelIdeal.Hand.G1 m c) Cert.KernelIdeal.Facts₀.shapeCasts_S4x1x300000_S4x300000 i) := (keep_ks1 (KB0 (Wk m c)) Cert.KernelIdeal.main_v64 (by decide)).trans k64_1
  have kp2 : (KB1 (Wk m c)) (Proc.devRef .tc Cert.KernelIdeal.main_v41) = Cert.KernelIdeal.Hand.V m c Cert.KernelIdeal.main_v41 := (keep_ks1 (KB0 (Wk m c)) Cert.KernelIdeal.main_v41 (by decide)).trans ((keep_ks0 (KA (Wk m c)) Cert.KernelIdeal.main_v41 (by decide)).trans ((keep_kHead (Wk m c) Cert.KernelIdeal.main_v41 (by decide)).trans hWp2))
  have rp2 : after (ptsOps2 (F := Ideal)) (Rt1 W') (Proc.devRef .tc Cert.ReferenceIdeal.main_v365) = Cert.KernelIdeal.Hand.V m c Cert.KernelIdeal.main_v41 :=
    (Cert.Pts.pts2 (fun b => m (c, b)) (Rt1 W') ra2).trans eV2
  have s2 := step2 (KB1 (Wk m c)) (Rt1 W') (Cert.KernelIdeal.Hand.G1 m c) (Cert.KernelIdeal.Hand.V m c Cert.KernelIdeal.main_v41) k64_2 kp2 rp2 (Cert.Lin.krow2 m c) rc2 rd2 re2
  have ra3 : Rt2 W' (Proc.devRef .tc Cert.ReferenceIdeal.main_arg0) = (fun b => m (c, b)) (Proc.devRef .tc Cert.KernelIdeal.main_arg0) :=
    (keepR2 (Rt1 W') Cert.ReferenceIdeal.main_arg0 (by decide) (by decide) (by decide)).trans ra2
  have rc3 := (keepR2 (Rt1 W') Cert.ReferenceIdeal.main_cst (by decide) (by decide) (by decide)).trans rc2
  have rd3 := (keepR2 (Rt1 W') Cert.ReferenceIdeal.main_cst_0 (by decide) (by decide) (by decide)).trans rd2
  have re3 := (keepR2 (Rt1 W') Cert.ReferenceIdeal.main_c (by decide) (by decide) (by decide)).trans re2
  -- batch 3
  have k64_3 : (KB2 (Wk m c)) (Proc.devRef .tc Cert.KernelIdeal.main_v64) = (fun i => shapeCast (Cert.KernelIdeal.main_v64 : Ref Cert.KernelIdeal.sig .tc).ty.shape (Cert.KernelIdeal.Hand.G1 m c) Cert.KernelIdeal.Facts₀.shapeCasts_S4x1x300000_S4x300000 i) := (keep_ks2 (KB1 (Wk m c)) Cert.KernelIdeal.main_v64 (by decide)).trans k64_2
  have kp3 : (KB2 (Wk m c)) (Proc.devRef .tc Cert.KernelIdeal.main_v55) = Cert.KernelIdeal.Hand.V m c Cert.KernelIdeal.main_v55 := (keep_ks2 (KB1 (Wk m c)) Cert.KernelIdeal.main_v55 (by decide)).trans ((keep_ks1 (KB0 (Wk m c)) Cert.KernelIdeal.main_v55 (by decide)).trans ((keep_ks0 (KA (Wk m c)) Cert.KernelIdeal.main_v55 (by decide)).trans ((keep_kHead (Wk m c) Cert.KernelIdeal.main_v55 (by decide)).trans hWp3)))
  have rp3 : after (ptsOps3 (F := Ideal)) (Rt2 W') (Proc.devRef .tc Cert.ReferenceIdeal.main_v541) = Cert.KernelIdeal.Hand.V m c Cert.KernelIdeal.main_v55 :=
    (Cert.Pts.pts3 (fun b => m (c, b)) (Rt2 W') ra3).trans eV3
  have s3 := step3 (KB2 (Wk m c)) (Rt2 W') (Cert.KernelIdeal.Hand.G1 m c) (Cert.KernelIdeal.Hand.V m c Cert.KernelIdeal.main_v55) k64_3 kp3 rp3 (Cert.Lin.krow3 m c) rc3 rd3 re3
  -- each batch's three results, carried to the end of the last batch on both sides
  have a0 : KB3 (Wk m c) (Proc.devRef .tc Cert.KernelIdeal.main_v160) = Rt3 W' (Proc.devRef .tc Cert.ReferenceIdeal.main_v134) :=
    ((keep_ks3 (KB2 (Wk m c)) Cert.KernelIdeal.main_v160 (by decide)).trans ((keep_ks2 (KB1 (Wk m c)) Cert.KernelIdeal.main_v160 (by decide)).trans ((keep_ks1 (KB0 (Wk m c)) Cert.KernelIdeal.main_v160 (by decide))))).trans ((s0.1).trans ((keepR3 (Rt2 W') Cert.ReferenceIdeal.main_v134 (by decide) (by decide) (by decide)).trans ((keepR2 (Rt1 W') Cert.ReferenceIdeal.main_v134 (by decide) (by decide) (by decide)).trans ((keepR1 (Rt0 W') Cert.ReferenceIdeal.main_v134 (by decide) (by decide) (by decide))))).symm)
  have b0 : KB3 (Wk m c) (Proc.devRef .tc Cert.KernelIdeal.main_v165) = Rt3 W' (Proc.devRef .tc Cert.ReferenceIdeal.main_v139) :=
    ((keep_ks3 (KB2 (Wk m c)) Cert.KernelIdeal.main_v165 (by decide)).trans ((keep_ks2 (KB1 (Wk m c)) Cert.KernelIdeal.main_v165 (by decide)).trans ((keep_ks1 (KB0 (Wk m c)) Cert.KernelIdeal.main_v165 (by decide))))).trans ((s0.2.1).trans ((keepR3 (Rt2 W') Cert.ReferenceIdeal.main_v139 (by decide) (by decide) (by decide)).trans ((keepR2 (Rt1 W') Cert.ReferenceIdeal.main_v139 (by decide) (by decide) (by decide)).trans ((keepR1 (Rt0 W') Cert.ReferenceIdeal.main_v139 (by decide) (by decide) (by decide))))).symm)
  have c0 : KB3 (Wk m c) (Proc.devRef .tc Cert.KernelIdeal.main_v201) = Rt3 W' (Proc.devRef .tc Cert.ReferenceIdeal.main_v175) :=
    ((keep_ks3 (KB2 (Wk m c)) Cert.KernelIdeal.main_v201 (by decide)).trans ((keep_ks2 (KB1 (Wk m c)) Cert.KernelIdeal.main_v201 (by decide)).trans ((keep_ks1 (KB0 (Wk m c)) Cert.KernelIdeal.main_v201 (by decide))))).trans ((s0.2.2).trans ((keepR3 (Rt2 W') Cert.ReferenceIdeal.main_v175 (by decide) (by decide) (by decide)).trans ((keepR2 (Rt1 W') Cert.ReferenceIdeal.main_v175 (by decide) (by decide) (by decide)).trans ((keepR1 (Rt0 W') Cert.ReferenceIdeal.main_v175 (by decide) (by decide) (by decide))))).symm)
  have a1 : KB3 (Wk m c) (Proc.devRef .tc Cert.KernelIdeal.main_v297) = Rt3 W' (Proc.devRef .tc Cert.ReferenceIdeal.main_v310) :=
    ((keep_ks3 (KB2 (Wk m c)) Cert.KernelIdeal.main_v297 (by decide)).trans ((keep_ks2 (KB1 (Wk m c)) Cert.KernelIdeal.main_v297 (by decide)))).trans ((s1.1).trans ((keepR3 (Rt2 W') Cert.ReferenceIdeal.main_v310 (by decide) (by decide) (by decide)).trans ((keepR2 (Rt1 W') Cert.ReferenceIdeal.main_v310 (by decide) (by decide) (by decide)))).symm)
  have b1 : KB3 (Wk m c) (Proc.devRef .tc Cert.KernelIdeal.main_v302) = Rt3 W' (Proc.devRef .tc Cert.ReferenceIdeal.main_v315) :=
    ((keep_ks3 (KB2 (Wk m c)) Cert.KernelIdeal.main_v302 (by decide)).trans ((keep_ks2 (KB1 (Wk m c)) Cert.KernelIdeal.main_v302 (by decide)))).trans ((s1.2.1).trans ((keepR3 (Rt2 W') Cert.ReferenceIdeal.main_v315 (by decide) (by decide) (by decide)).trans ((keepR2 (Rt1 W') Cert.ReferenceIdeal.main_v315 (by decide) (by decide) (by decide)))).symm)
  have c1 : KB3 (Wk m c) (Proc.devRef .tc Cert.KernelIdeal.main_v338) = Rt3 W' (Proc.devRef .tc Cert.ReferenceIdeal.main_v351) :=
    ((keep_ks3 (KB2 (Wk m c)) Cert.KernelIdeal.main_v338 (by decide)).trans ((keep_ks2 (KB1 (Wk m c)) Cert.KernelIdeal.main_v338 (by decide)))).trans ((s1.2.2).trans ((keepR3 (Rt2 W') Cert.ReferenceIdeal.main_v351 (by decide) (by decide) (by decide)).trans ((keepR2 (Rt1 W') Cert.ReferenceIdeal.main_v351 (by decide) (by decide) (by decide)))).symm)
  have a2 : KB3 (Wk m c) (Proc.devRef .tc Cert.KernelIdeal.main_v434) = Rt3 W' (Proc.devRef .tc Cert.ReferenceIdeal.main_v486) :=
    ((keep_ks3 (KB2 (Wk m c)) Cert.KernelIdeal.main_v434 (by decide))).trans ((s2.1).trans ((keepR3 (Rt2 W') Cert.ReferenceIdeal.main_v486 (by decide) (by decide) (by decide))).symm)
  have b2 : KB3 (Wk m c) (Proc.devRef .tc Cert.KernelIdeal.main_v439) = Rt3 W' (Proc.devRef .tc Cert.ReferenceIdeal.main_v491) :=
    ((keep_ks3 (KB2 (Wk m c)) Cert.KernelIdeal.main_v439 (by decide))).trans ((s2.2.1).trans ((keepR3 (Rt2 W') Cert.ReferenceIdeal.main_v491 (by decide) (by decide) (by decide))).symm)
  have c2 : KB3 (Wk m c) (Proc.devRef .tc Cert.KernelIdeal.main_v475) = Rt3 W' (Proc.devRef .tc Cert.ReferenceIdeal.main_v527) :=
    ((keep_ks3 (KB2 (Wk m c)) Cert.KernelIdeal.main_v475 (by decide))).trans ((s2.2.2).trans ((keepR3 (Rt2 W') Cert.ReferenceIdeal.main_v527 (by decide) (by decide) (by decide))).symm)
  have a3 : KB3 (Wk m c) (Proc.devRef .tc Cert.KernelIdeal.main_v571) = Rt3 W' (Proc.devRef .tc Cert.ReferenceIdeal.main_v662) := s3.1
  have b3 : KB3 (Wk m c) (Proc.devRef .tc Cert.KernelIdeal.main_v576) = Rt3 W' (Proc.devRef .tc Cert.ReferenceIdeal.main_v667) := s3.2.1
  have c3 : KB3 (Wk m c) (Proc.devRef .tc Cert.KernelIdeal.main_v612) = Rt3 W' (Proc.devRef .tc Cert.ReferenceIdeal.main_v703) := s3.2.2
  have fin := fin_all (KB3 (Wk m c)) (Rt3 W') a0 a1 a2 a3 b0 b1 b2 b3 c0 c1 c2 c3
  exact ⟨(ref_eq W' _).trans (fin.1.trans (tail_eq m c _).symm), (ref_eq W' _).trans (fin.2.1.trans (tail_eq m c _).symm),
    (ref_eq W' _).trans (fin.2.2.trans (tail_eq m c _).symm)⟩

end Cert.Bridge

end
-- ==== Proof.lean ====
/-
  The certificate of a point-cloud voxelizer: a kernel that computes, for every point of four batches, the id of the
  grid cell it falls in (floor of the shifted and scaled coordinates, a range check, a linear index, a sentinel for
  points outside the grid), followed by host operations that assign voxel slots in first-occurrence order, rank the
  points inside their cells by a stable sort and scatter them into padded arrays — against a reference that does all of
  it on the host, batch by batch.

  The three frames: each program runs to the end without a fault and leaves its argument as launched. The kernel
  program's is the frame run of its one region continued by the host operations after it; the reference's is the run of
  its straight line of host operations.

  The value claim: the idealized kernel program and the idealized reference end with equal results. The kernel's cell
  ids are the reference's (the same arithmetic on the same three coordinates of a point; the mask the kernel program
  recomputes as "id ≠ sentinel" is the reference's range check, because an in-range point's id is below the sentinel),
  and after the cell ids the two texts apply the same operations in the same order. The ideal pass rewrote nothing, so
  the kernel's idealization is its own text read over the extended reals.
-/
import proofs.«111982_j16939351015723_2_alg».proof.Defs
import proofs.«111982_j16939351015723_2_alg».proof.Proof.Gen.Kernel
import proofs.«111982_j16939351015723_2_alg».proof.Proof.Gen.KernelIdeal
import proofs.«111982_j16939351015723_2_alg».proof.Proof.Gen.ReferenceIdeal
import proofs.«111982_j16939351015723_2_alg».proof.Proof.Gen.Pre_finite_inputs
import proofs.«111982_j16939351015723_2_alg».proof.Proof.KFrameBits
import proofs.«111982_j16939351015723_2_alg».proof.Proof.KFI_Final
import proofs.«111982_j16939351015723_2_alg».proof.Proof.RefRun
import proofs.«111982_j16939351015723_2_alg».proof.Proof.BridgeTop
import Idealize.ShloMosaic.Adequacy
import Idealize.ShloMosaic.Init

set_option maxRecDepth 16384

noncomputable section

namespace Cert.Proof

open Idealize.ShloMosaic Idealize.SL.Sem

/-- The kernel program as printed runs and keeps its argument. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference. -/
theorem frame_ri : Cert.frame_ReferenceIdeal := fun m ρ _ => Cert.ReferenceIdeal.Hand.frame m ρ

/-- The ideal pass rewrote no operation. -/
theorem preserves : Cert.preserves_Kernel_KernelIdeal := trivial

/-- Both idealized programs run; the kernel program's results are what its host operations after the region leave, and
    the reference's results are the same arrays. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v613,
    fun c => Pipeline.afterTail₀ Cert.KernelIdeal.cfgs (Cert.KernelIdeal.Hand.dats m) 0 (Cert.KernelIdeal.Hand.V0 m) Cert.KernelIdeal.Hand.tailOps c Cert.KernelIdeal.main_v614,
    fun c => Pipeline.afterTail₀ Cert.KernelIdeal.cfgs (Cert.KernelIdeal.Hand.dats m) 0 (Cert.KernelIdeal.Hand.V0 m) Cert.KernelIdeal.Hand.tailOps c Cert.KernelIdeal.main_v615, ?_, ?_⟩
  · refine (θ_run Cert.KernelIdeal.defs _ _).mono (fun r h c => ⟨?_, ?_, ?_, ?_⟩) (Cert.KernelIdeal.Hand.run_main m ρ)
    · exact (h c).2 Cert.KernelIdeal.main_v613 (Pipeline.mem_restRefs_of Cert.KernelIdeal.main_v613 (by decide) (by decide))
    · exact (h c).2 Cert.KernelIdeal.main_v614 (Pipeline.mem_restRefs_of Cert.KernelIdeal.main_v614 (by decide) (by decide))
    · exact (h c).2 Cert.KernelIdeal.main_v615 (Pipeline.mem_restRefs_of Cert.KernelIdeal.main_v615 (by decide) (by decide))
    · exact ((h c).2 Cert.KernelIdeal.main_arg0 (Pipeline.mem_restRefs_of Cert.KernelIdeal.main_arg0 (by decide) (by decide))).trans (Cert.KernelIdeal.Hand.W_main_arg0 m c)
  · refine (θ_run Cert.ReferenceIdeal.defs _ _).mono (fun r h c => ?_) (Cert.ReferenceIdeal.Hand.run m' ρ')
    have hv := Cert.Bridge.values m c (StableHlo.launchContents m' c) (hagree c)
    exact ⟨(h c Cert.ReferenceIdeal.main_v704).trans hv.1, (h c Cert.ReferenceIdeal.main_v705).trans hv.2.1, (h c Cert.ReferenceIdeal.main_v706).trans hv.2.2,
      (h c Cert.ReferenceIdeal.main_arg0).trans (Cert.ReferenceIdeal.Hand.kept_arg0 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
